-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x32 : Shape := ⟨2, ![1024, 32]⟩
abbrev S32x1024 : Shape := ⟨2, ![32, 1024]⟩
abbrev S_ : Shape := ⟨0, ![]⟩

class Facts : Prop where
  bcast_S_S1024x32 : S_.BroadcastsInDim S1024x32 (![] : Fin 0 → Fin S1024x32.rank)
  reducesTo_S1024x32_S_d0_1 : S1024x32.ReducesTo [0, 1] S_
  h_S_ : 0 < S_.numel
  bcast_S_S32x1024 : S_.BroadcastsInDim S32x1024 (![] : Fin 0 → Fin S32x1024.rank)
  reducesTo_S32x1024_S_d0_1 : S32x1024.ReducesTo [0, 1] S_

variable [Facts]

def fn {F : FTy → Type} [FloatOps F] (main_arg0 : FVec F S1024x32 .f32) (main_arg1 : FVec F S32x1024 .f32) : IVec S_ 1 :=
  let main_v0 : FVec F S1024x32 .f32 := Host.absf main_arg0
  let main_cst : FVec F S_ .f32 := constant S_ .f32 0x7F800000#32
  let main_v1 : FVec F S1024x32 .f32 := broadcastInDim S1024x32 ![] bcast_S_S1024x32 main_cst
  let main_v2 : IVec S1024x32 1 := cmpf .olt main_v0 main_v1
  let main_c : IVec S_ 1 := constantI S_ 1 1#1
  let main_v3 : IVec S_ 1 := (fun x v => Host.reduce IntOp.andi x v reducesTo_S1024x32_S_d0_1 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  main_v8
-- ==== Pre_finite_inputs_ReferenceIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) (main_arg1 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S1024x32 : Shape := ⟨2, ![1024, 32]⟩
abbrev S32x1024 : Shape := ⟨2, ![32, 1024]⟩
abbrev S1024x1024 : Shape := ⟨2, ![1024, 1024]⟩
abbrev S2x32x32x512 : Shape := ⟨4, ![2, 32, 32, 512]⟩
abbrev S2x32 : Shape := ⟨2, ![2, 32]⟩
abbrev S_ : Shape := ⟨0, ![]⟩
abbrev S32x512 : Shape := ⟨2, ![32, 512]⟩
abbrev S1024x512 : Shape := ⟨2, ![1024, 512]⟩
abbrev S1x1x32x512 : Shape := ⟨4, ![1, 1, 32, 512]⟩
abbrev S1x1 : Shape := ⟨2, ![1, 1]⟩
abbrev S1x32x32x512 : Shape := ⟨4, ![1, 32, 32, 512]⟩
abbrev S32x32x512 : Shape := ⟨3, ![32, 32, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x32, .f32⟩
  | .hbm, ⟨1, _⟩ => ⟨S32x1024, .f32⟩
  | .hbm, ⟨2, _⟩ => ⟨S1024x1024, .f32⟩
  | .local _ .vmem, ⟨0, _⟩ => ⟨S1024x32, .f32⟩
  | .local _ .vmem, ⟨1, _⟩ => ⟨S32x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S2x32x32x512, .bf16⟩
  | _, _ => ⟨S1024x32, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 259 → Bool
  | ⟨i, _⟩ => dmaSemScopedAt i

abbrev sig : RefSig :=
  { ofTc nBuf bufTy 1 259 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_129 : BitVec 32 := 32#32
  let v140 : BitVec 32 := Scalar.muli v2 c32_i32_129
  let v141 : Index := Scalar.indexCast v140
  let c0_130 : Index := 0#32
  ![v141.toNat, 0]
def k0_off2 (d0 : Dev nD) (c1_i32_136 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v146 : BitVec 32 := Scalar.addi v2 c1_i32_136
  let c32_i32_137 : BitVec 32 := 32#32
  let v147 : BitVec 32 := Scalar.remsi v146 c32_i32_137
  let c32_i32_138 : BitVec 32 := 32#32
  let v148 : BitVec 32 := Scalar.muli v147 c32_i32_138
  let c0_i32_149 : BitVec 32 := 0#32
  ![v148.toNat, 0]
def k0_dev32 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_136 : BitVec 32 := 1#32
  let v146 : BitVec 32 := Scalar.addi v2 c1_i32_136
  let c32_i32_137 : BitVec 32 := 32#32
  let v147 : BitVec 32 := Scalar.remsi v146 c32_i32_137
  let c1_i32_145 : BitVec 32 := 1#32
  let v149 : BitVec 32 := Scalar.muli v147 c1_i32_145
  let v150 : BitVec 32 := Scalar.addi c0_i32_146 v149
  v150.toNat
def k0_dev33 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_150 : BitVec 32 := 2#32
  let v158 : BitVec 32 := Scalar.addi v2 c2_i32_150
  let c32_i32_151 : BitVec 32 := 32#32
  let v159 : BitVec 32 := Scalar.remsi v158 c32_i32_151
  let c1_i32_159 : BitVec 32 := 1#32
  let v161 : BitVec 32 := Scalar.muli v159 c1_i32_159
  let v162 : BitVec 32 := Scalar.addi c0_i32_160 v161
  v162.toNat
def k0_dev34 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_164 : BitVec 32 := 3#32
  let v170 : BitVec 32 := Scalar.addi v2 c3_i32_164
  let c32_i32_165 : BitVec 32 := 32#32
  let v171 : BitVec 32 := Scalar.remsi v170 c32_i32_165
  let c1_i32_173 : BitVec 32 := 1#32
  let v173 : BitVec 32 := Scalar.muli v171 c1_i32_173
  let v174 : BitVec 32 := Scalar.addi c0_i32_174 v173
  v174.toNat
def k0_dev35 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_178 : BitVec 32 := 4#32
  let v182 : BitVec 32 := Scalar.addi v2 c4_i32_178
  let c32_i32_179 : BitVec 32 := 32#32
  let v183 : BitVec 32 := Scalar.remsi v182 c32_i32_179
  let c1_i32_187 : BitVec 32 := 1#32
  let v185 : BitVec 32 := Scalar.muli v183 c1_i32_187
  let v186 : BitVec 32 := Scalar.addi c0_i32_188 v185
  v186.toNat
def k0_dev36 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_192 : BitVec 32 := 5#32
  let v194 : BitVec 32 := Scalar.addi v2 c5_i32_192
  let c32_i32_193 : BitVec 32 := 32#32
  let v195 : BitVec 32 := Scalar.remsi v194 c32_i32_193
  let c1_i32_201 : BitVec 32 := 1#32
  let v197 : BitVec 32 := Scalar.muli v195 c1_i32_201
  let v198 : BitVec 32 := Scalar.addi c0_i32_202 v197
  v198.toNat
def k0_dev37 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_206 : BitVec 32 := 6#32
  let v206 : BitVec 32 := Scalar.addi v2 c6_i32_206
  let c32_i32_207 : BitVec 32 := 32#32
  let v207 : BitVec 32 := Scalar.remsi v206 c32_i32_207
  let c1_i32_215 : BitVec 32 := 1#32
  let v209 : BitVec 32 := Scalar.muli v207 c1_i32_215
  let v210 : BitVec 32 := Scalar.addi c0_i32_216 v209
  v210.toNat
def k0_dev38 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_220 : BitVec 32 := 7#32
  let v218 : BitVec 32 := Scalar.addi v2 c7_i32_220
  let c32_i32_221 : BitVec 32 := 32#32
  let v219 : BitVec 32 := Scalar.remsi v218 c32_i32_221
  let c1_i32_229 : BitVec 32 := 1#32
  let v221 : BitVec 32 := Scalar.muli v219 c1_i32_229
  let v222 : BitVec 32 := Scalar.addi c0_i32_230 v221
  v222.toNat
def k0_dev39 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_234 : BitVec 32 := 8#32
  let v230 : BitVec 32 := Scalar.addi v2 c8_i32_234
  let c32_i32_235 : BitVec 32 := 32#32
  let v231 : BitVec 32 := Scalar.remsi v230 c32_i32_235
  let c1_i32_243 : BitVec 32 := 1#32
  let v233 : BitVec 32 := Scalar.muli v231 c1_i32_243
  let v234 : BitVec 32 := Scalar.addi c0_i32_244 v233
  v234.toNat
def k0_dev40 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_248 : BitVec 32 := 9#32
  let v242 : BitVec 32 := Scalar.addi v2 c9_i32_248
  let c32_i32_249 : BitVec 32 := 32#32
  let v243 : BitVec 32 := Scalar.remsi v242 c32_i32_249
  let c1_i32_257 : BitVec 32 := 1#32
  let v245 : BitVec 32 := Scalar.muli v243 c1_i32_257
  let v246 : BitVec 32 := Scalar.addi c0_i32_258 v245
  v246.toNat
def k0_dev41 (d0 : Dev nD) : Nat :=
  let c0_i32_272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_262 : BitVec 32 := 10#32
  let v254 : BitVec 32 := Scalar.addi v2 c10_i32_262
  let c32_i32_263 : BitVec 32 := 32#32
  let v255 : BitVec 32 := Scalar.remsi v254 c32_i32_263
  let c1_i32_271 : BitVec 32 := 1#32
  let v257 : BitVec 32 := Scalar.muli v255 c1_i32_271
  let v258 : BitVec 32 := Scalar.addi c0_i32_272 v257
  v258.toNat
def k0_dev42 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_276 : BitVec 32 := 11#32
  let v266 : BitVec 32 := Scalar.addi v2 c11_i32_276
  let c32_i32_277 : BitVec 32 := 32#32
  let v267 : BitVec 32 := Scalar.remsi v266 c32_i32_277
  let c1_i32_285 : BitVec 32 := 1#32
  let v269 : BitVec 32 := Scalar.muli v267 c1_i32_285
  let v270 : BitVec 32 := Scalar.addi c0_i32_286 v269
  v270.toNat
def k0_dev43 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_290 : BitVec 32 := 12#32
  let v278 : BitVec 32 := Scalar.addi v2 c12_i32_290
  let c32_i32_291 : BitVec 32 := 32#32
  let v279 : BitVec 32 := Scalar.remsi v278 c32_i32_291
  let c1_i32_299 : BitVec 32 := 1#32
  let v281 : BitVec 32 := Scalar.muli v279 c1_i32_299
  let v282 : BitVec 32 := Scalar.addi c0_i32_300 v281
  v282.toNat
def k0_dev44 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_304 : BitVec 32 := 13#32
  let v290 : BitVec 32 := Scalar.addi v2 c13_i32_304
  let c32_i32_305 : BitVec 32 := 32#32
  let v291 : BitVec 32 := Scalar.remsi v290 c32_i32_305
  let c1_i32_313 : BitVec 32 := 1#32
  let v293 : BitVec 32 := Scalar.muli v291 c1_i32_313
  let v294 : BitVec 32 := Scalar.addi c0_i32_314 v293
  v294.toNat
def k0_dev45 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_318 : BitVec 32 := 14#32
  let v302 : BitVec 32 := Scalar.addi v2 c14_i32_318
  let c32_i32_319 : BitVec 32 := 32#32
  let v303 : BitVec 32 := Scalar.remsi v302 c32_i32_319
  let c1_i32_327 : BitVec 32 := 1#32
  let v305 : BitVec 32 := Scalar.muli v303 c1_i32_327
  let v306 : BitVec 32 := Scalar.addi c0_i32_328 v305
  v306.toNat
def k0_dev46 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_332 : BitVec 32 := 15#32
  let v314 : BitVec 32 := Scalar.addi v2 c15_i32_332
  let c32_i32_333 : BitVec 32 := 32#32
  let v315 : BitVec 32 := Scalar.remsi v314 c32_i32_333
  let c1_i32_341 : BitVec 32 := 1#32
  let v317 : BitVec 32 := Scalar.muli v315 c1_i32_341
  let v318 : BitVec 32 := Scalar.addi c0_i32_342 v317
  v318.toNat
def k0_dev47 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_346 : BitVec 32 := 16#32
  let v326 : BitVec 32 := Scalar.addi v2 c16_i32_346
  let c32_i32_347 : BitVec 32 := 32#32
  let v327 : BitVec 32 := Scalar.remsi v326 c32_i32_347
  let c1_i32_355 : BitVec 32 := 1#32
  let v329 : BitVec 32 := Scalar.muli v327 c1_i32_355
  let v330 : BitVec 32 := Scalar.addi c0_i32_356 v329
  v330.toNat
def k0_dev48 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_360 : BitVec 32 := 17#32
  let v338 : BitVec 32 := Scalar.addi v2 c17_i32_360
  let c32_i32_361 : BitVec 32 := 32#32
  let v339 : BitVec 32 := Scalar.remsi v338 c32_i32_361
  let c1_i32_369 : BitVec 32 := 1#32
  let v341 : BitVec 32 := Scalar.muli v339 c1_i32_369
  let v342 : BitVec 32 := Scalar.addi c0_i32_370 v341
  v342.toNat
def k0_dev49 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_374 : BitVec 32 := 18#32
  let v350 : BitVec 32 := Scalar.addi v2 c18_i32_374
  let c32_i32_375 : BitVec 32 := 32#32
  let v351 : BitVec 32 := Scalar.remsi v350 c32_i32_375
  let c1_i32_383 : BitVec 32 := 1#32
  let v353 : BitVec 32 := Scalar.muli v351 c1_i32_383
  let v354 : BitVec 32 := Scalar.addi c0_i32_384 v353
  v354.toNat
def k0_dev50 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_388 : BitVec 32 := 19#32
  let v362 : BitVec 32 := Scalar.addi v2 c19_i32_388
  let c32_i32_389 : BitVec 32 := 32#32
  let v363 : BitVec 32 := Scalar.remsi v362 c32_i32_389
  let c1_i32_397 : BitVec 32 := 1#32
  let v365 : BitVec 32 := Scalar.muli v363 c1_i32_397
  let v366 : BitVec 32 := Scalar.addi c0_i32_398 v365
  v366.toNat
def k0_dev51 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_402 : BitVec 32 := 20#32
  let v374 : BitVec 32 := Scalar.addi v2 c20_i32_402
  let c32_i32_403 : BitVec 32 := 32#32
  let v375 : BitVec 32 := Scalar.remsi v374 c32_i32_403
  let c1_i32_411 : BitVec 32 := 1#32
  let v377 : BitVec 32 := Scalar.muli v375 c1_i32_411
  let v378 : BitVec 32 := Scalar.addi c0_i32_412 v377
  v378.toNat
def k0_dev52 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_416 : BitVec 32 := 21#32
  let v386 : BitVec 32 := Scalar.addi v2 c21_i32_416
  let c32_i32_417 : BitVec 32 := 32#32
  let v387 : BitVec 32 := Scalar.remsi v386 c32_i32_417
  let c1_i32_425 : BitVec 32 := 1#32
  let v389 : BitVec 32 := Scalar.muli v387 c1_i32_425
  let v390 : BitVec 32 := Scalar.addi c0_i32_426 v389
  v390.toNat
def k0_dev53 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_430 : BitVec 32 := 22#32
  let v398 : BitVec 32 := Scalar.addi v2 c22_i32_430
  let c32_i32_431 : BitVec 32 := 32#32
  let v399 : BitVec 32 := Scalar.remsi v398 c32_i32_431
  let c1_i32_439 : BitVec 32 := 1#32
  let v401 : BitVec 32 := Scalar.muli v399 c1_i32_439
  let v402 : BitVec 32 := Scalar.addi c0_i32_440 v401
  v402.toNat
def k0_dev54 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_444 : BitVec 32 := 23#32
  let v410 : BitVec 32 := Scalar.addi v2 c23_i32_444
  let c32_i32_445 : BitVec 32 := 32#32
  let v411 : BitVec 32 := Scalar.remsi v410 c32_i32_445
  let c1_i32_453 : BitVec 32 := 1#32
  let v413 : BitVec 32 := Scalar.muli v411 c1_i32_453
  let v414 : BitVec 32 := Scalar.addi c0_i32_454 v413
  v414.toNat
def k0_dev55 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_458 : BitVec 32 := 24#32
  let v422 : BitVec 32 := Scalar.addi v2 c24_i32_458
  let c32_i32_459 : BitVec 32 := 32#32
  let v423 : BitVec 32 := Scalar.remsi v422 c32_i32_459
  let c1_i32_467 : BitVec 32 := 1#32
  let v425 : BitVec 32 := Scalar.muli v423 c1_i32_467
  let v426 : BitVec 32 := Scalar.addi c0_i32_468 v425
  v426.toNat
def k0_dev56 (d0 : Dev nD) : Nat :=
  let c0_i32_482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_472 : BitVec 32 := 25#32
  let v434 : BitVec 32 := Scalar.addi v2 c25_i32_472
  let c32_i32_473 : BitVec 32 := 32#32
  let v435 : BitVec 32 := Scalar.remsi v434 c32_i32_473
  let c1_i32_481 : BitVec 32 := 1#32
  let v437 : BitVec 32 := Scalar.muli v435 c1_i32_481
  let v438 : BitVec 32 := Scalar.addi c0_i32_482 v437
  v438.toNat
def k0_dev57 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_486 : BitVec 32 := 26#32
  let v446 : BitVec 32 := Scalar.addi v2 c26_i32_486
  let c32_i32_487 : BitVec 32 := 32#32
  let v447 : BitVec 32 := Scalar.remsi v446 c32_i32_487
  let c1_i32_495 : BitVec 32 := 1#32
  let v449 : BitVec 32 := Scalar.muli v447 c1_i32_495
  let v450 : BitVec 32 := Scalar.addi c0_i32_496 v449
  v450.toNat
def k0_dev58 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_500 : BitVec 32 := 27#32
  let v458 : BitVec 32 := Scalar.addi v2 c27_i32_500
  let c32_i32_501 : BitVec 32 := 32#32
  let v459 : BitVec 32 := Scalar.remsi v458 c32_i32_501
  let c1_i32_509 : BitVec 32 := 1#32
  let v461 : BitVec 32 := Scalar.muli v459 c1_i32_509
  let v462 : BitVec 32 := Scalar.addi c0_i32_510 v461
  v462.toNat
def k0_dev59 (d0 : Dev nD) : Nat :=
  let c0_i32_524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_514 : BitVec 32 := 28#32
  let v470 : BitVec 32 := Scalar.addi v2 c28_i32_514
  let c32_i32_515 : BitVec 32 := 32#32
  let v471 : BitVec 32 := Scalar.remsi v470 c32_i32_515
  let c1_i32_523 : BitVec 32 := 1#32
  let v473 : BitVec 32 := Scalar.muli v471 c1_i32_523
  let v474 : BitVec 32 := Scalar.addi c0_i32_524 v473
  v474.toNat
def k0_dev60 (d0 : Dev nD) : Nat :=
  let c0_i32_538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_528 : BitVec 32 := 29#32
  let v482 : BitVec 32 := Scalar.addi v2 c29_i32_528
  let c32_i32_529 : BitVec 32 := 32#32
  let v483 : BitVec 32 := Scalar.remsi v482 c32_i32_529
  let c1_i32_537 : BitVec 32 := 1#32
  let v485 : BitVec 32 := Scalar.muli v483 c1_i32_537
  let v486 : BitVec 32 := Scalar.addi c0_i32_538 v485
  v486.toNat
def k0_dev61 (d0 : Dev nD) : Nat :=
  let c0_i32_552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_542 : BitVec 32 := 30#32
  let v494 : BitVec 32 := Scalar.addi v2 c30_i32_542
  let c32_i32_543 : BitVec 32 := 32#32
  let v495 : BitVec 32 := Scalar.remsi v494 c32_i32_543
  let c1_i32_551 : BitVec 32 := 1#32
  let v497 : BitVec 32 := Scalar.muli v495 c1_i32_551
  let v498 : BitVec 32 := Scalar.addi c0_i32_552 v497
  v498.toNat
def k0_dev62 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_556 : BitVec 32 := 31#32
  let v506 : BitVec 32 := Scalar.addi v2 c31_i32_556
  let c32_i32_557 : BitVec 32 := 32#32
  let v507 : BitVec 32 := Scalar.remsi v506 c32_i32_557
  let c1_i32_565 : BitVec 32 := 1#32
  let v509 : BitVec 32 := Scalar.muli v507 c1_i32_565
  let v510 : BitVec 32 := Scalar.addi c0_i32_566 v509
  v510.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_572 : BitVec 32 := 32#32
  let v524 : BitVec 32 := Scalar.muli v2 c32_i32_572
  let v525 : Index := Scalar.indexCast v524
  let c512_573 : Index := 512#32
  ![v525.toNat, 512]
def k0_off4 (d0 : Dev nD) (c1_i32_577 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v530 : BitVec 32 := Scalar.addi v2 c1_i32_577
  let c32_i32_578 : BitVec 32 := 32#32
  let v531 : BitVec 32 := Scalar.remsi v530 c32_i32_578
  let c32_i32_579 : BitVec 32 := 32#32
  let v532 : BitVec 32 := Scalar.muli v531 c32_i32_579
  let c512_i32 : BitVec 32 := 512#32
  ![v532.toNat, 512]
def k0_dev63 (d0 : Dev nD) : Nat :=
  let c0_i32_587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_577 : BitVec 32 := 1#32
  let v530 : BitVec 32 := Scalar.addi v2 c1_i32_577
  let c32_i32_578 : BitVec 32 := 32#32
  let v531 : BitVec 32 := Scalar.remsi v530 c32_i32_578
  let c1_i32_586 : BitVec 32 := 1#32
  let v533 : BitVec 32 := Scalar.muli v531 c1_i32_586
  let v534 : BitVec 32 := Scalar.addi c0_i32_587 v533
  v534.toNat
def k0_dev64 (d0 : Dev nD) : Nat :=
  let c0_i32_600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_590 : BitVec 32 := 2#32
  let v542 : BitVec 32 := Scalar.addi v2 c2_i32_590
  let c32_i32_591 : BitVec 32 := 32#32
  let v543 : BitVec 32 := Scalar.remsi v542 c32_i32_591
  let c1_i32_599 : BitVec 32 := 1#32
  let v545 : BitVec 32 := Scalar.muli v543 c1_i32_599
  let v546 : BitVec 32 := Scalar.addi c0_i32_600 v545
  v546.toNat
def k0_dev65 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_604 : BitVec 32 := 3#32
  let v554 : BitVec 32 := Scalar.addi v2 c3_i32_604
  let c32_i32_605 : BitVec 32 := 32#32
  let v555 : BitVec 32 := Scalar.remsi v554 c32_i32_605
  let c1_i32_613 : BitVec 32 := 1#32
  let v557 : BitVec 32 := Scalar.muli v555 c1_i32_613
  let v558 : BitVec 32 := Scalar.addi c0_i32_614 v557
  v558.toNat
def k0_dev66 (d0 : Dev nD) : Nat :=
  let c0_i32_628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_618 : BitVec 32 := 4#32
  let v566 : BitVec 32 := Scalar.addi v2 c4_i32_618
  let c32_i32_619 : BitVec 32 := 32#32
  let v567 : BitVec 32 := Scalar.remsi v566 c32_i32_619
  let c1_i32_627 : BitVec 32 := 1#32
  let v569 : BitVec 32 := Scalar.muli v567 c1_i32_627
  let v570 : BitVec 32 := Scalar.addi c0_i32_628 v569
  v570.toNat
def k0_dev67 (d0 : Dev nD) : Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_632 : BitVec 32 := 5#32
  let v578 : BitVec 32 := Scalar.addi v2 c5_i32_632
  let c32_i32_633 : BitVec 32 := 32#32
  let v579 : BitVec 32 := Scalar.remsi v578 c32_i32_633
  let c1_i32_641 : BitVec 32 := 1#32
  let v581 : BitVec 32 := Scalar.muli v579 c1_i32_641
  let v582 : BitVec 32 := Scalar.addi c0_i32_642 v581
  v582.toNat
def k0_dev68 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_646 : BitVec 32 := 6#32
  let v590 : BitVec 32 := Scalar.addi v2 c6_i32_646
  let c32_i32_647 : BitVec 32 := 32#32
  let v591 : BitVec 32 := Scalar.remsi v590 c32_i32_647
  let c1_i32_655 : BitVec 32 := 1#32
  let v593 : BitVec 32 := Scalar.muli v591 c1_i32_655
  let v594 : BitVec 32 := Scalar.addi c0_i32_656 v593
  v594.toNat
def k0_dev69 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_660 : BitVec 32 := 7#32
  let v602 : BitVec 32 := Scalar.addi v2 c7_i32_660
  let c32_i32_661 : BitVec 32 := 32#32
  let v603 : BitVec 32 := Scalar.remsi v602 c32_i32_661
  let c1_i32_669 : BitVec 32 := 1#32
  let v605 : BitVec 32 := Scalar.muli v603 c1_i32_669
  let v606 : BitVec 32 := Scalar.addi c0_i32_670 v605
  v606.toNat
def k0_dev70 (d0 : Dev nD) : Nat :=
  let c0_i32_684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_674 : BitVec 32 := 8#32
  let v614 : BitVec 32 := Scalar.addi v2 c8_i32_674
  let c32_i32_675 : BitVec 32 := 32#32
  let v615 : BitVec 32 := Scalar.remsi v614 c32_i32_675
  let c1_i32_683 : BitVec 32 := 1#32
  let v617 : BitVec 32 := Scalar.muli v615 c1_i32_683
  let v618 : BitVec 32 := Scalar.addi c0_i32_684 v617
  v618.toNat
def k0_dev71 (d0 : Dev nD) : Nat :=
  let c0_i32_698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_688 : BitVec 32 := 9#32
  let v626 : BitVec 32 := Scalar.addi v2 c9_i32_688
  let c32_i32_689 : BitVec 32 := 32#32
  let v627 : BitVec 32 := Scalar.remsi v626 c32_i32_689
  let c1_i32_697 : BitVec 32 := 1#32
  let v629 : BitVec 32 := Scalar.muli v627 c1_i32_697
  let v630 : BitVec 32 := Scalar.addi c0_i32_698 v629
  v630.toNat
def k0_dev72 (d0 : Dev nD) : Nat :=
  let c0_i32_712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_702 : BitVec 32 := 10#32
  let v638 : BitVec 32 := Scalar.addi v2 c10_i32_702
  let c32_i32_703 : BitVec 32 := 32#32
  let v639 : BitVec 32 := Scalar.remsi v638 c32_i32_703
  let c1_i32_711 : BitVec 32 := 1#32
  let v641 : BitVec 32 := Scalar.muli v639 c1_i32_711
  let v642 : BitVec 32 := Scalar.addi c0_i32_712 v641
  v642.toNat
def k0_dev73 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_716 : BitVec 32 := 11#32
  let v650 : BitVec 32 := Scalar.addi v2 c11_i32_716
  let c32_i32_717 : BitVec 32 := 32#32
  let v651 : BitVec 32 := Scalar.remsi v650 c32_i32_717
  let c1_i32_725 : BitVec 32 := 1#32
  let v653 : BitVec 32 := Scalar.muli v651 c1_i32_725
  let v654 : BitVec 32 := Scalar.addi c0_i32_726 v653
  v654.toNat
def k0_dev74 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_730 : BitVec 32 := 12#32
  let v662 : BitVec 32 := Scalar.addi v2 c12_i32_730
  let c32_i32_731 : BitVec 32 := 32#32
  let v663 : BitVec 32 := Scalar.remsi v662 c32_i32_731
  let c1_i32_739 : BitVec 32 := 1#32
  let v665 : BitVec 32 := Scalar.muli v663 c1_i32_739
  let v666 : BitVec 32 := Scalar.addi c0_i32_740 v665
  v666.toNat
def k0_dev75 (d0 : Dev nD) : Nat :=
  let c0_i32_754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_744 : BitVec 32 := 13#32
  let v674 : BitVec 32 := Scalar.addi v2 c13_i32_744
  let c32_i32_745 : BitVec 32 := 32#32
  let v675 : BitVec 32 := Scalar.remsi v674 c32_i32_745
  let c1_i32_753 : BitVec 32 := 1#32
  let v677 : BitVec 32 := Scalar.muli v675 c1_i32_753
  let v678 : BitVec 32 := Scalar.addi c0_i32_754 v677
  v678.toNat
def k0_dev76 (d0 : Dev nD) : Nat :=
  let c0_i32_768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_758 : BitVec 32 := 14#32
  let v686 : BitVec 32 := Scalar.addi v2 c14_i32_758
  let c32_i32_759 : BitVec 32 := 32#32
  let v687 : BitVec 32 := Scalar.remsi v686 c32_i32_759
  let c1_i32_767 : BitVec 32 := 1#32
  let v689 : BitVec 32 := Scalar.muli v687 c1_i32_767
  let v690 : BitVec 32 := Scalar.addi c0_i32_768 v689
  v690.toNat
def k0_dev77 (d0 : Dev nD) : Nat :=
  let c0_i32_782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_772 : BitVec 32 := 15#32
  let v698 : BitVec 32 := Scalar.addi v2 c15_i32_772
  let c32_i32_773 : BitVec 32 := 32#32
  let v699 : BitVec 32 := Scalar.remsi v698 c32_i32_773
  let c1_i32_781 : BitVec 32 := 1#32
  let v701 : BitVec 32 := Scalar.muli v699 c1_i32_781
  let v702 : BitVec 32 := Scalar.addi c0_i32_782 v701
  v702.toNat
def k0_dev78 (d0 : Dev nD) : Nat :=
  let c0_i32_796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_786 : BitVec 32 := 16#32
  let v710 : BitVec 32 := Scalar.addi v2 c16_i32_786
  let c32_i32_787 : BitVec 32 := 32#32
  let v711 : BitVec 32 := Scalar.remsi v710 c32_i32_787
  let c1_i32_795 : BitVec 32 := 1#32
  let v713 : BitVec 32 := Scalar.muli v711 c1_i32_795
  let v714 : BitVec 32 := Scalar.addi c0_i32_796 v713
  v714.toNat
def k0_dev79 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_800 : BitVec 32 := 17#32
  let v722 : BitVec 32 := Scalar.addi v2 c17_i32_800
  let c32_i32_801 : BitVec 32 := 32#32
  let v723 : BitVec 32 := Scalar.remsi v722 c32_i32_801
  let c1_i32_809 : BitVec 32 := 1#32
  let v725 : BitVec 32 := Scalar.muli v723 c1_i32_809
  let v726 : BitVec 32 := Scalar.addi c0_i32_810 v725
  v726.toNat
def k0_dev80 (d0 : Dev nD) : Nat :=
  let c0_i32_824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_814 : BitVec 32 := 18#32
  let v734 : BitVec 32 := Scalar.addi v2 c18_i32_814
  let c32_i32_815 : BitVec 32 := 32#32
  let v735 : BitVec 32 := Scalar.remsi v734 c32_i32_815
  let c1_i32_823 : BitVec 32 := 1#32
  let v737 : BitVec 32 := Scalar.muli v735 c1_i32_823
  let v738 : BitVec 32 := Scalar.addi c0_i32_824 v737
  v738.toNat
def k0_dev81 (d0 : Dev nD) : Nat :=
  let c0_i32_838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_828 : BitVec 32 := 19#32
  let v746 : BitVec 32 := Scalar.addi v2 c19_i32_828
  let c32_i32_829 : BitVec 32 := 32#32
  let v747 : BitVec 32 := Scalar.remsi v746 c32_i32_829
  let c1_i32_837 : BitVec 32 := 1#32
  let v749 : BitVec 32 := Scalar.muli v747 c1_i32_837
  let v750 : BitVec 32 := Scalar.addi c0_i32_838 v749
  v750.toNat
def k0_dev82 (d0 : Dev nD) : Nat :=
  let c0_i32_852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_842 : BitVec 32 := 20#32
  let v758 : BitVec 32 := Scalar.addi v2 c20_i32_842
  let c32_i32_843 : BitVec 32 := 32#32
  let v759 : BitVec 32 := Scalar.remsi v758 c32_i32_843
  let c1_i32_851 : BitVec 32 := 1#32
  let v761 : BitVec 32 := Scalar.muli v759 c1_i32_851
  let v762 : BitVec 32 := Scalar.addi c0_i32_852 v761
  v762.toNat
def k0_dev83 (d0 : Dev nD) : Nat :=
  let c0_i32_866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_856 : BitVec 32 := 21#32
  let v770 : BitVec 32 := Scalar.addi v2 c21_i32_856
  let c32_i32_857 : BitVec 32 := 32#32
  let v771 : BitVec 32 := Scalar.remsi v770 c32_i32_857
  let c1_i32_865 : BitVec 32 := 1#32
  let v773 : BitVec 32 := Scalar.muli v771 c1_i32_865
  let v774 : BitVec 32 := Scalar.addi c0_i32_866 v773
  v774.toNat
def k0_dev84 (d0 : Dev nD) : Nat :=
  let c0_i32_880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_870 : BitVec 32 := 22#32
  let v782 : BitVec 32 := Scalar.addi v2 c22_i32_870
  let c32_i32_871 : BitVec 32 := 32#32
  let v783 : BitVec 32 := Scalar.remsi v782 c32_i32_871
  let c1_i32_879 : BitVec 32 := 1#32
  let v785 : BitVec 32 := Scalar.muli v783 c1_i32_879
  let v786 : BitVec 32 := Scalar.addi c0_i32_880 v785
  v786.toNat
def k0_dev85 (d0 : Dev nD) : Nat :=
  let c0_i32_894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_884 : BitVec 32 := 23#32
  let v794 : BitVec 32 := Scalar.addi v2 c23_i32_884
  let c32_i32_885 : BitVec 32 := 32#32
  let v795 : BitVec 32 := Scalar.remsi v794 c32_i32_885
  let c1_i32_893 : BitVec 32 := 1#32
  let v797 : BitVec 32 := Scalar.muli v795 c1_i32_893
  let v798 : BitVec 32 := Scalar.addi c0_i32_894 v797
  v798.toNat
def k0_dev86 (d0 : Dev nD) : Nat :=
  let c0_i32_908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_898 : BitVec 32 := 24#32
  let v806 : BitVec 32 := Scalar.addi v2 c24_i32_898
  let c32_i32_899 : BitVec 32 := 32#32
  let v807 : BitVec 32 := Scalar.remsi v806 c32_i32_899
  let c1_i32_907 : BitVec 32 := 1#32
  let v809 : BitVec 32 := Scalar.muli v807 c1_i32_907
  let v810 : BitVec 32 := Scalar.addi c0_i32_908 v809
  v810.toNat
def k0_dev87 (d0 : Dev nD) : Nat :=
  let c0_i32_922 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_912 : BitVec 32 := 25#32
  let v818 : BitVec 32 := Scalar.addi v2 c25_i32_912
  let c32_i32_913 : BitVec 32 := 32#32
  let v819 : BitVec 32 := Scalar.remsi v818 c32_i32_913
  let c1_i32_921 : BitVec 32 := 1#32
  let v821 : BitVec 32 := Scalar.muli v819 c1_i32_921
  let v822 : BitVec 32 := Scalar.addi c0_i32_922 v821
  v822.toNat
def k0_dev88 (d0 : Dev nD) : Nat :=
  let c0_i32_936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_926 : BitVec 32 := 26#32
  let v830 : BitVec 32 := Scalar.addi v2 c26_i32_926
  let c32_i32_927 : BitVec 32 := 32#32
  let v831 : BitVec 32 := Scalar.remsi v830 c32_i32_927
  let c1_i32_935 : BitVec 32 := 1#32
  let v833 : BitVec 32 := Scalar.muli v831 c1_i32_935
  let v834 : BitVec 32 := Scalar.addi c0_i32_936 v833
  v834.toNat
def k0_dev89 (d0 : Dev nD) : Nat :=
  let c0_i32_950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_940 : BitVec 32 := 27#32
  let v842 : BitVec 32 := Scalar.addi v2 c27_i32_940
  let c32_i32_941 : BitVec 32 := 32#32
  let v843 : BitVec 32 := Scalar.remsi v842 c32_i32_941
  let c1_i32_949 : BitVec 32 := 1#32
  let v845 : BitVec 32 := Scalar.muli v843 c1_i32_949
  let v846 : BitVec 32 := Scalar.addi c0_i32_950 v845
  v846.toNat
def k0_dev90 (d0 : Dev nD) : Nat :=
  let c0_i32_964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_954 : BitVec 32 := 28#32
  let v854 : BitVec 32 := Scalar.addi v2 c28_i32_954
  let c32_i32_955 : BitVec 32 := 32#32
  let v855 : BitVec 32 := Scalar.remsi v854 c32_i32_955
  let c1_i32_963 : BitVec 32 := 1#32
  let v857 : BitVec 32 := Scalar.muli v855 c1_i32_963
  let v858 : BitVec 32 := Scalar.addi c0_i32_964 v857
  v858.toNat
def k0_dev91 (d0 : Dev nD) : Nat :=
  let c0_i32_978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_968 : BitVec 32 := 29#32
  let v866 : BitVec 32 := Scalar.addi v2 c29_i32_968
  let c32_i32_969 : BitVec 32 := 32#32
  let v867 : BitVec 32 := Scalar.remsi v866 c32_i32_969
  let c1_i32_977 : BitVec 32 := 1#32
  let v869 : BitVec 32 := Scalar.muli v867 c1_i32_977
  let v870 : BitVec 32 := Scalar.addi c0_i32_978 v869
  v870.toNat
def k0_dev92 (d0 : Dev nD) : Nat :=
  let c0_i32_992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_982 : BitVec 32 := 30#32
  let v878 : BitVec 32 := Scalar.addi v2 c30_i32_982
  let c32_i32_983 : BitVec 32 := 32#32
  let v879 : BitVec 32 := Scalar.remsi v878 c32_i32_983
  let c1_i32_991 : BitVec 32 := 1#32
  let v881 : BitVec 32 := Scalar.muli v879 c1_i32_991
  let v882 : BitVec 32 := Scalar.addi c0_i32_992 v881
  v882.toNat
def k0_dev93 (d0 : Dev nD) : Nat :=
  let c0_i32_1006 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_996 : BitVec 32 := 31#32
  let v890 : BitVec 32 := Scalar.addi v2 c31_i32_996
  let c32_i32_997 : BitVec 32 := 32#32
  let v891 : BitVec 32 := Scalar.remsi v890 c32_i32_997
  let c1_i32_1005 : BitVec 32 := 1#32
  let v893 : BitVec 32 := Scalar.muli v891 c1_i32_1005
  let v894 : BitVec 32 := Scalar.addi c0_i32_1006 v893
  v894.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1551 : BitVec 32 := 32#32
  let v1269 : BitVec 32 := Scalar.muli v2 c32_i32_1551
  let c0_i32_1558 : BitVec 32 := 0#32
  ![v1269.toNat, 0]
def k0_dev94 (d0 : Dev nD) : Nat :=
  let c0_i32_1557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1548 : BitVec 32 := 1#32
  let v1266 : BitVec 32 := Scalar.addi v2 c1_i32_1548
  let c32_i32_1549 : BitVec 32 := 32#32
  let v1267 : BitVec 32 := Scalar.remsi v1266 c32_i32_1549
  let c1_i32_1556 : BitVec 32 := 1#32
  let v1270 : BitVec 32 := Scalar.muli v1267 c1_i32_1556
  let v1271 : BitVec 32 := Scalar.addi c0_i32_1557 v1270
  v1271.toNat
def k0_dev95 (d0 : Dev nD) : Nat :=
  let c0_i32_1569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1560 : BitVec 32 := 2#32
  let v1278 : BitVec 32 := Scalar.addi v2 c2_i32_1560
  let c32_i32_1561 : BitVec 32 := 32#32
  let v1279 : BitVec 32 := Scalar.remsi v1278 c32_i32_1561
  let c1_i32_1568 : BitVec 32 := 1#32
  let v1282 : BitVec 32 := Scalar.muli v1279 c1_i32_1568
  let v1283 : BitVec 32 := Scalar.addi c0_i32_1569 v1282
  v1283.toNat
def k0_dev96 (d0 : Dev nD) : Nat :=
  let c0_i32_1581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1572 : BitVec 32 := 3#32
  let v1290 : BitVec 32 := Scalar.addi v2 c3_i32_1572
  let c32_i32_1573 : BitVec 32 := 32#32
  let v1291 : BitVec 32 := Scalar.remsi v1290 c32_i32_1573
  let c1_i32_1580 : BitVec 32 := 1#32
  let v1294 : BitVec 32 := Scalar.muli v1291 c1_i32_1580
  let v1295 : BitVec 32 := Scalar.addi c0_i32_1581 v1294
  v1295.toNat
def k0_dev97 (d0 : Dev nD) : Nat :=
  let c0_i32_1593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1584 : BitVec 32 := 4#32
  let v1302 : BitVec 32 := Scalar.addi v2 c4_i32_1584
  let c32_i32_1585 : BitVec 32 := 32#32
  let v1303 : BitVec 32 := Scalar.remsi v1302 c32_i32_1585
  let c1_i32_1592 : BitVec 32 := 1#32
  let v1306 : BitVec 32 := Scalar.muli v1303 c1_i32_1592
  let v1307 : BitVec 32 := Scalar.addi c0_i32_1593 v1306
  v1307.toNat
def k0_dev98 (d0 : Dev nD) : Nat :=
  let c0_i32_1605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1596 : BitVec 32 := 5#32
  let v1314 : BitVec 32 := Scalar.addi v2 c5_i32_1596
  let c32_i32_1597 : BitVec 32 := 32#32
  let v1315 : BitVec 32 := Scalar.remsi v1314 c32_i32_1597
  let c1_i32_1604 : BitVec 32 := 1#32
  let v1318 : BitVec 32 := Scalar.muli v1315 c1_i32_1604
  let v1319 : BitVec 32 := Scalar.addi c0_i32_1605 v1318
  v1319.toNat
def k0_dev99 (d0 : Dev nD) : Nat :=
  let c0_i32_1617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1608 : BitVec 32 := 6#32
  let v1326 : BitVec 32 := Scalar.addi v2 c6_i32_1608
  let c32_i32_1609 : BitVec 32 := 32#32
  let v1327 : BitVec 32 := Scalar.remsi v1326 c32_i32_1609
  let c1_i32_1616 : BitVec 32 := 1#32
  let v1330 : BitVec 32 := Scalar.muli v1327 c1_i32_1616
  let v1331 : BitVec 32 := Scalar.addi c0_i32_1617 v1330
  v1331.toNat
def k0_dev100 (d0 : Dev nD) : Nat :=
  let c0_i32_1629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1620 : BitVec 32 := 7#32
  let v1338 : BitVec 32 := Scalar.addi v2 c7_i32_1620
  let c32_i32_1621 : BitVec 32 := 32#32
  let v1339 : BitVec 32 := Scalar.remsi v1338 c32_i32_1621
  let c1_i32_1628 : BitVec 32 := 1#32
  let v1342 : BitVec 32 := Scalar.muli v1339 c1_i32_1628
  let v1343 : BitVec 32 := Scalar.addi c0_i32_1629 v1342
  v1343.toNat
def k0_dev101 (d0 : Dev nD) : Nat :=
  let c0_i32_1641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1632 : BitVec 32 := 8#32
  let v1350 : BitVec 32 := Scalar.addi v2 c8_i32_1632
  let c32_i32_1633 : BitVec 32 := 32#32
  let v1351 : BitVec 32 := Scalar.remsi v1350 c32_i32_1633
  let c1_i32_1640 : BitVec 32 := 1#32
  let v1354 : BitVec 32 := Scalar.muli v1351 c1_i32_1640
  let v1355 : BitVec 32 := Scalar.addi c0_i32_1641 v1354
  v1355.toNat
def k0_dev102 (d0 : Dev nD) : Nat :=
  let c0_i32_1653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1644 : BitVec 32 := 9#32
  let v1362 : BitVec 32 := Scalar.addi v2 c9_i32_1644
  let c32_i32_1645 : BitVec 32 := 32#32
  let v1363 : BitVec 32 := Scalar.remsi v1362 c32_i32_1645
  let c1_i32_1652 : BitVec 32 := 1#32
  let v1366 : BitVec 32 := Scalar.muli v1363 c1_i32_1652
  let v1367 : BitVec 32 := Scalar.addi c0_i32_1653 v1366
  v1367.toNat
def k0_dev103 (d0 : Dev nD) : Nat :=
  let c0_i32_1665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1656 : BitVec 32 := 10#32
  let v1374 : BitVec 32 := Scalar.addi v2 c10_i32_1656
  let c32_i32_1657 : BitVec 32 := 32#32
  let v1375 : BitVec 32 := Scalar.remsi v1374 c32_i32_1657
  let c1_i32_1664 : BitVec 32 := 1#32
  let v1378 : BitVec 32 := Scalar.muli v1375 c1_i32_1664
  let v1379 : BitVec 32 := Scalar.addi c0_i32_1665 v1378
  v1379.toNat
def k0_dev104 (d0 : Dev nD) : Nat :=
  let c0_i32_1677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1668 : BitVec 32 := 11#32
  let v1386 : BitVec 32 := Scalar.addi v2 c11_i32_1668
  let c32_i32_1669 : BitVec 32 := 32#32
  let v1387 : BitVec 32 := Scalar.remsi v1386 c32_i32_1669
  let c1_i32_1676 : BitVec 32 := 1#32
  let v1390 : BitVec 32 := Scalar.muli v1387 c1_i32_1676
  let v1391 : BitVec 32 := Scalar.addi c0_i32_1677 v1390
  v1391.toNat
def k0_dev105 (d0 : Dev nD) : Nat :=
  let c0_i32_1689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1680 : BitVec 32 := 12#32
  let v1398 : BitVec 32 := Scalar.addi v2 c12_i32_1680
  let c32_i32_1681 : BitVec 32 := 32#32
  let v1399 : BitVec 32 := Scalar.remsi v1398 c32_i32_1681
  let c1_i32_1688 : BitVec 32 := 1#32
  let v1402 : BitVec 32 := Scalar.muli v1399 c1_i32_1688
  let v1403 : BitVec 32 := Scalar.addi c0_i32_1689 v1402
  v1403.toNat
def k0_dev106 (d0 : Dev nD) : Nat :=
  let c0_i32_1701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1692 : BitVec 32 := 13#32
  let v1410 : BitVec 32 := Scalar.addi v2 c13_i32_1692
  let c32_i32_1693 : BitVec 32 := 32#32
  let v1411 : BitVec 32 := Scalar.remsi v1410 c32_i32_1693
  let c1_i32_1700 : BitVec 32 := 1#32
  let v1414 : BitVec 32 := Scalar.muli v1411 c1_i32_1700
  let v1415 : BitVec 32 := Scalar.addi c0_i32_1701 v1414
  v1415.toNat
def k0_dev107 (d0 : Dev nD) : Nat :=
  let c0_i32_1713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1704 : BitVec 32 := 14#32
  let v1422 : BitVec 32 := Scalar.addi v2 c14_i32_1704
  let c32_i32_1705 : BitVec 32 := 32#32
  let v1423 : BitVec 32 := Scalar.remsi v1422 c32_i32_1705
  let c1_i32_1712 : BitVec 32 := 1#32
  let v1426 : BitVec 32 := Scalar.muli v1423 c1_i32_1712
  let v1427 : BitVec 32 := Scalar.addi c0_i32_1713 v1426
  v1427.toNat
def k0_dev108 (d0 : Dev nD) : Nat :=
  let c0_i32_1725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1716 : BitVec 32 := 15#32
  let v1434 : BitVec 32 := Scalar.addi v2 c15_i32_1716
  let c32_i32_1717 : BitVec 32 := 32#32
  let v1435 : BitVec 32 := Scalar.remsi v1434 c32_i32_1717
  let c1_i32_1724 : BitVec 32 := 1#32
  let v1438 : BitVec 32 := Scalar.muli v1435 c1_i32_1724
  let v1439 : BitVec 32 := Scalar.addi c0_i32_1725 v1438
  v1439.toNat
def k0_dev109 (d0 : Dev nD) : Nat :=
  let c0_i32_1737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1728 : BitVec 32 := 16#32
  let v1446 : BitVec 32 := Scalar.addi v2 c16_i32_1728
  let c32_i32_1729 : BitVec 32 := 32#32
  let v1447 : BitVec 32 := Scalar.remsi v1446 c32_i32_1729
  let c1_i32_1736 : BitVec 32 := 1#32
  let v1450 : BitVec 32 := Scalar.muli v1447 c1_i32_1736
  let v1451 : BitVec 32 := Scalar.addi c0_i32_1737 v1450
  v1451.toNat
def k0_dev110 (d0 : Dev nD) : Nat :=
  let c0_i32_1749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1740 : BitVec 32 := 17#32
  let v1458 : BitVec 32 := Scalar.addi v2 c17_i32_1740
  let c32_i32_1741 : BitVec 32 := 32#32
  let v1459 : BitVec 32 := Scalar.remsi v1458 c32_i32_1741
  let c1_i32_1748 : BitVec 32 := 1#32
  let v1462 : BitVec 32 := Scalar.muli v1459 c1_i32_1748
  let v1463 : BitVec 32 := Scalar.addi c0_i32_1749 v1462
  v1463.toNat
def k0_dev111 (d0 : Dev nD) : Nat :=
  let c0_i32_1761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1752 : BitVec 32 := 18#32
  let v1470 : BitVec 32 := Scalar.addi v2 c18_i32_1752
  let c32_i32_1753 : BitVec 32 := 32#32
  let v1471 : BitVec 32 := Scalar.remsi v1470 c32_i32_1753
  let c1_i32_1760 : BitVec 32 := 1#32
  let v1474 : BitVec 32 := Scalar.muli v1471 c1_i32_1760
  let v1475 : BitVec 32 := Scalar.addi c0_i32_1761 v1474
  v1475.toNat
def k0_dev112 (d0 : Dev nD) : Nat :=
  let c0_i32_1773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1764 : BitVec 32 := 19#32
  let v1482 : BitVec 32 := Scalar.addi v2 c19_i32_1764
  let c32_i32_1765 : BitVec 32 := 32#32
  let v1483 : BitVec 32 := Scalar.remsi v1482 c32_i32_1765
  let c1_i32_1772 : BitVec 32 := 1#32
  let v1486 : BitVec 32 := Scalar.muli v1483 c1_i32_1772
  let v1487 : BitVec 32 := Scalar.addi c0_i32_1773 v1486
  v1487.toNat
def k0_dev113 (d0 : Dev nD) : Nat :=
  let c0_i32_1785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1776 : BitVec 32 := 20#32
  let v1494 : BitVec 32 := Scalar.addi v2 c20_i32_1776
  let c32_i32_1777 : BitVec 32 := 32#32
  let v1495 : BitVec 32 := Scalar.remsi v1494 c32_i32_1777
  let c1_i32_1784 : BitVec 32 := 1#32
  let v1498 : BitVec 32 := Scalar.muli v1495 c1_i32_1784
  let v1499 : BitVec 32 := Scalar.addi c0_i32_1785 v1498
  v1499.toNat
def k0_dev114 (d0 : Dev nD) : Nat :=
  let c0_i32_1797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1788 : BitVec 32 := 21#32
  let v1506 : BitVec 32 := Scalar.addi v2 c21_i32_1788
  let c32_i32_1789 : BitVec 32 := 32#32
  let v1507 : BitVec 32 := Scalar.remsi v1506 c32_i32_1789
  let c1_i32_1796 : BitVec 32 := 1#32
  let v1510 : BitVec 32 := Scalar.muli v1507 c1_i32_1796
  let v1511 : BitVec 32 := Scalar.addi c0_i32_1797 v1510
  v1511.toNat
def k0_dev115 (d0 : Dev nD) : Nat :=
  let c0_i32_1809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1800 : BitVec 32 := 22#32
  let v1518 : BitVec 32 := Scalar.addi v2 c22_i32_1800
  let c32_i32_1801 : BitVec 32 := 32#32
  let v1519 : BitVec 32 := Scalar.remsi v1518 c32_i32_1801
  let c1_i32_1808 : BitVec 32 := 1#32
  let v1522 : BitVec 32 := Scalar.muli v1519 c1_i32_1808
  let v1523 : BitVec 32 := Scalar.addi c0_i32_1809 v1522
  v1523.toNat
def k0_dev116 (d0 : Dev nD) : Nat :=
  let c0_i32_1821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1812 : BitVec 32 := 23#32
  let v1530 : BitVec 32 := Scalar.addi v2 c23_i32_1812
  let c32_i32_1813 : BitVec 32 := 32#32
  let v1531 : BitVec 32 := Scalar.remsi v1530 c32_i32_1813
  let c1_i32_1820 : BitVec 32 := 1#32
  let v1534 : BitVec 32 := Scalar.muli v1531 c1_i32_1820
  let v1535 : BitVec 32 := Scalar.addi c0_i32_1821 v1534
  v1535.toNat
def k0_dev117 (d0 : Dev nD) : Nat :=
  let c0_i32_1833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1824 : BitVec 32 := 24#32
  let v1542 : BitVec 32 := Scalar.addi v2 c24_i32_1824
  let c32_i32_1825 : BitVec 32 := 32#32
  let v1543 : BitVec 32 := Scalar.remsi v1542 c32_i32_1825
  let c1_i32_1832 : BitVec 32 := 1#32
  let v1546 : BitVec 32 := Scalar.muli v1543 c1_i32_1832
  let v1547 : BitVec 32 := Scalar.addi c0_i32_1833 v1546
  v1547.toNat
def k0_dev118 (d0 : Dev nD) : Nat :=
  let c0_i32_1845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1836 : BitVec 32 := 25#32
  let v1554 : BitVec 32 := Scalar.addi v2 c25_i32_1836
  let c32_i32_1837 : BitVec 32 := 32#32
  let v1555 : BitVec 32 := Scalar.remsi v1554 c32_i32_1837
  let c1_i32_1844 : BitVec 32 := 1#32
  let v1558 : BitVec 32 := Scalar.muli v1555 c1_i32_1844
  let v1559 : BitVec 32 := Scalar.addi c0_i32_1845 v1558
  v1559.toNat
def k0_dev119 (d0 : Dev nD) : Nat :=
  let c0_i32_1857 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1848 : BitVec 32 := 26#32
  let v1566 : BitVec 32 := Scalar.addi v2 c26_i32_1848
  let c32_i32_1849 : BitVec 32 := 32#32
  let v1567 : BitVec 32 := Scalar.remsi v1566 c32_i32_1849
  let c1_i32_1856 : BitVec 32 := 1#32
  let v1570 : BitVec 32 := Scalar.muli v1567 c1_i32_1856
  let v1571 : BitVec 32 := Scalar.addi c0_i32_1857 v1570
  v1571.toNat
def k0_dev120 (d0 : Dev nD) : Nat :=
  let c0_i32_1869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1860 : BitVec 32 := 27#32
  let v1578 : BitVec 32 := Scalar.addi v2 c27_i32_1860
  let c32_i32_1861 : BitVec 32 := 32#32
  let v1579 : BitVec 32 := Scalar.remsi v1578 c32_i32_1861
  let c1_i32_1868 : BitVec 32 := 1#32
  let v1582 : BitVec 32 := Scalar.muli v1579 c1_i32_1868
  let v1583 : BitVec 32 := Scalar.addi c0_i32_1869 v1582
  v1583.toNat
def k0_dev121 (d0 : Dev nD) : Nat :=
  let c0_i32_1881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1872 : BitVec 32 := 28#32
  let v1590 : BitVec 32 := Scalar.addi v2 c28_i32_1872
  let c32_i32_1873 : BitVec 32 := 32#32
  let v1591 : BitVec 32 := Scalar.remsi v1590 c32_i32_1873
  let c1_i32_1880 : BitVec 32 := 1#32
  let v1594 : BitVec 32 := Scalar.muli v1591 c1_i32_1880
  let v1595 : BitVec 32 := Scalar.addi c0_i32_1881 v1594
  v1595.toNat
def k0_dev122 (d0 : Dev nD) : Nat :=
  let c0_i32_1893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1884 : BitVec 32 := 29#32
  let v1602 : BitVec 32 := Scalar.addi v2 c29_i32_1884
  let c32_i32_1885 : BitVec 32 := 32#32
  let v1603 : BitVec 32 := Scalar.remsi v1602 c32_i32_1885
  let c1_i32_1892 : BitVec 32 := 1#32
  let v1606 : BitVec 32 := Scalar.muli v1603 c1_i32_1892
  let v1607 : BitVec 32 := Scalar.addi c0_i32_1893 v1606
  v1607.toNat
def k0_dev123 (d0 : Dev nD) : Nat :=
  let c0_i32_1905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1896 : BitVec 32 := 30#32
  let v1614 : BitVec 32 := Scalar.addi v2 c30_i32_1896
  let c32_i32_1897 : BitVec 32 := 32#32
  let v1615 : BitVec 32 := Scalar.remsi v1614 c32_i32_1897
  let c1_i32_1904 : BitVec 32 := 1#32
  let v1618 : BitVec 32 := Scalar.muli v1615 c1_i32_1904
  let v1619 : BitVec 32 := Scalar.addi c0_i32_1905 v1618
  v1619.toNat
def k0_dev124 (d0 : Dev nD) : Nat :=
  let c0_i32_1917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1908 : BitVec 32 := 31#32
  let v1626 : BitVec 32 := Scalar.addi v2 c31_i32_1908
  let c32_i32_1909 : BitVec 32 := 32#32
  let v1627 : BitVec 32 := Scalar.remsi v1626 c32_i32_1909
  let c1_i32_1916 : BitVec 32 := 1#32
  let v1630 : BitVec 32 := Scalar.muli v1627 c1_i32_1916
  let v1631 : BitVec 32 := Scalar.addi c0_i32_1917 v1630
  v1631.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2461 : BitVec 32 := 32#32
  let v2005 : BitVec 32 := Scalar.muli v2 c32_i32_2461
  let c512_i32_2468 : BitVec 32 := 512#32
  ![v2005.toNat, 512]
def k0_dev125 (d0 : Dev nD) : Nat :=
  let c0_i32_2467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2458 : BitVec 32 := 1#32
  let v2002 : BitVec 32 := Scalar.addi v2 c1_i32_2458
  let c32_i32_2459 : BitVec 32 := 32#32
  let v2003 : BitVec 32 := Scalar.remsi v2002 c32_i32_2459
  let c1_i32_2466 : BitVec 32 := 1#32
  let v2006 : BitVec 32 := Scalar.muli v2003 c1_i32_2466
  let v2007 : BitVec 32 := Scalar.addi c0_i32_2467 v2006
  v2007.toNat
def k0_dev126 (d0 : Dev nD) : Nat :=
  let c0_i32_2479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2470 : BitVec 32 := 2#32
  let v2014 : BitVec 32 := Scalar.addi v2 c2_i32_2470
  let c32_i32_2471 : BitVec 32 := 32#32
  let v2015 : BitVec 32 := Scalar.remsi v2014 c32_i32_2471
  let c1_i32_2478 : BitVec 32 := 1#32
  let v2018 : BitVec 32 := Scalar.muli v2015 c1_i32_2478
  let v2019 : BitVec 32 := Scalar.addi c0_i32_2479 v2018
  v2019.toNat
def k0_dev127 (d0 : Dev nD) : Nat :=
  let c0_i32_2491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2482 : BitVec 32 := 3#32
  let v2026 : BitVec 32 := Scalar.addi v2 c3_i32_2482
  let c32_i32_2483 : BitVec 32 := 32#32
  let v2027 : BitVec 32 := Scalar.remsi v2026 c32_i32_2483
  let c1_i32_2490 : BitVec 32 := 1#32
  let v2030 : BitVec 32 := Scalar.muli v2027 c1_i32_2490
  let v2031 : BitVec 32 := Scalar.addi c0_i32_2491 v2030
  v2031.toNat
def k0_dev128 (d0 : Dev nD) : Nat :=
  let c0_i32_2503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2494 : BitVec 32 := 4#32
  let v2038 : BitVec 32 := Scalar.addi v2 c4_i32_2494
  let c32_i32_2495 : BitVec 32 := 32#32
  let v2039 : BitVec 32 := Scalar.remsi v2038 c32_i32_2495
  let c1_i32_2502 : BitVec 32 := 1#32
  let v2042 : BitVec 32 := Scalar.muli v2039 c1_i32_2502
  let v2043 : BitVec 32 := Scalar.addi c0_i32_2503 v2042
  v2043.toNat
def k0_dev129 (d0 : Dev nD) : Nat :=
  let c0_i32_2515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2506 : BitVec 32 := 5#32
  let v2050 : BitVec 32 := Scalar.addi v2 c5_i32_2506
  let c32_i32_2507 : BitVec 32 := 32#32
  let v2051 : BitVec 32 := Scalar.remsi v2050 c32_i32_2507
  let c1_i32_2514 : BitVec 32 := 1#32
  let v2054 : BitVec 32 := Scalar.muli v2051 c1_i32_2514
  let v2055 : BitVec 32 := Scalar.addi c0_i32_2515 v2054
  v2055.toNat
def k0_dev130 (d0 : Dev nD) : Nat :=
  let c0_i32_2527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2518 : BitVec 32 := 6#32
  let v2062 : BitVec 32 := Scalar.addi v2 c6_i32_2518
  let c32_i32_2519 : BitVec 32 := 32#32
  let v2063 : BitVec 32 := Scalar.remsi v2062 c32_i32_2519
  let c1_i32_2526 : BitVec 32 := 1#32
  let v2066 : BitVec 32 := Scalar.muli v2063 c1_i32_2526
  let v2067 : BitVec 32 := Scalar.addi c0_i32_2527 v2066
  v2067.toNat
def k0_dev131 (d0 : Dev nD) : Nat :=
  let c0_i32_2539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2530 : BitVec 32 := 7#32
  let v2074 : BitVec 32 := Scalar.addi v2 c7_i32_2530
  let c32_i32_2531 : BitVec 32 := 32#32
  let v2075 : BitVec 32 := Scalar.remsi v2074 c32_i32_2531
  let c1_i32_2538 : BitVec 32 := 1#32
  let v2078 : BitVec 32 := Scalar.muli v2075 c1_i32_2538
  let v2079 : BitVec 32 := Scalar.addi c0_i32_2539 v2078
  v2079.toNat
def k0_dev132 (d0 : Dev nD) : Nat :=
  let c0_i32_2551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2542 : BitVec 32 := 8#32
  let v2086 : BitVec 32 := Scalar.addi v2 c8_i32_2542
  let c32_i32_2543 : BitVec 32 := 32#32
  let v2087 : BitVec 32 := Scalar.remsi v2086 c32_i32_2543
  let c1_i32_2550 : BitVec 32 := 1#32
  let v2090 : BitVec 32 := Scalar.muli v2087 c1_i32_2550
  let v2091 : BitVec 32 := Scalar.addi c0_i32_2551 v2090
  v2091.toNat
def k0_dev133 (d0 : Dev nD) : Nat :=
  let c0_i32_2563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2554 : BitVec 32 := 9#32
  let v2098 : BitVec 32 := Scalar.addi v2 c9_i32_2554
  let c32_i32_2555 : BitVec 32 := 32#32
  let v2099 : BitVec 32 := Scalar.remsi v2098 c32_i32_2555
  let c1_i32_2562 : BitVec 32 := 1#32
  let v2102 : BitVec 32 := Scalar.muli v2099 c1_i32_2562
  let v2103 : BitVec 32 := Scalar.addi c0_i32_2563 v2102
  v2103.toNat
def k0_dev134 (d0 : Dev nD) : Nat :=
  let c0_i32_2575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2566 : BitVec 32 := 10#32
  let v2110 : BitVec 32 := Scalar.addi v2 c10_i32_2566
  let c32_i32_2567 : BitVec 32 := 32#32
  let v2111 : BitVec 32 := Scalar.remsi v2110 c32_i32_2567
  let c1_i32_2574 : BitVec 32 := 1#32
  let v2114 : BitVec 32 := Scalar.muli v2111 c1_i32_2574
  let v2115 : BitVec 32 := Scalar.addi c0_i32_2575 v2114
  v2115.toNat
def k0_dev135 (d0 : Dev nD) : Nat :=
  let c0_i32_2587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2578 : BitVec 32 := 11#32
  let v2122 : BitVec 32 := Scalar.addi v2 c11_i32_2578
  let c32_i32_2579 : BitVec 32 := 32#32
  let v2123 : BitVec 32 := Scalar.remsi v2122 c32_i32_2579
  let c1_i32_2586 : BitVec 32 := 1#32
  let v2126 : BitVec 32 := Scalar.muli v2123 c1_i32_2586
  let v2127 : BitVec 32 := Scalar.addi c0_i32_2587 v2126
  v2127.toNat
def k0_dev136 (d0 : Dev nD) : Nat :=
  let c0_i32_2599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2590 : BitVec 32 := 12#32
  let v2134 : BitVec 32 := Scalar.addi v2 c12_i32_2590
  let c32_i32_2591 : BitVec 32 := 32#32
  let v2135 : BitVec 32 := Scalar.remsi v2134 c32_i32_2591
  let c1_i32_2598 : BitVec 32 := 1#32
  let v2138 : BitVec 32 := Scalar.muli v2135 c1_i32_2598
  let v2139 : BitVec 32 := Scalar.addi c0_i32_2599 v2138
  v2139.toNat
def k0_dev137 (d0 : Dev nD) : Nat :=
  let c0_i32_2611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2602 : BitVec 32 := 13#32
  let v2146 : BitVec 32 := Scalar.addi v2 c13_i32_2602
  let c32_i32_2603 : BitVec 32 := 32#32
  let v2147 : BitVec 32 := Scalar.remsi v2146 c32_i32_2603
  let c1_i32_2610 : BitVec 32 := 1#32
  let v2150 : BitVec 32 := Scalar.muli v2147 c1_i32_2610
  let v2151 : BitVec 32 := Scalar.addi c0_i32_2611 v2150
  v2151.toNat
def k0_dev138 (d0 : Dev nD) : Nat :=
  let c0_i32_2623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2614 : BitVec 32 := 14#32
  let v2158 : BitVec 32 := Scalar.addi v2 c14_i32_2614
  let c32_i32_2615 : BitVec 32 := 32#32
  let v2159 : BitVec 32 := Scalar.remsi v2158 c32_i32_2615
  let c1_i32_2622 : BitVec 32 := 1#32
  let v2162 : BitVec 32 := Scalar.muli v2159 c1_i32_2622
  let v2163 : BitVec 32 := Scalar.addi c0_i32_2623 v2162
  v2163.toNat
def k0_dev139 (d0 : Dev nD) : Nat :=
  let c0_i32_2635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2626 : BitVec 32 := 15#32
  let v2170 : BitVec 32 := Scalar.addi v2 c15_i32_2626
  let c32_i32_2627 : BitVec 32 := 32#32
  let v2171 : BitVec 32 := Scalar.remsi v2170 c32_i32_2627
  let c1_i32_2634 : BitVec 32 := 1#32
  let v2174 : BitVec 32 := Scalar.muli v2171 c1_i32_2634
  let v2175 : BitVec 32 := Scalar.addi c0_i32_2635 v2174
  v2175.toNat
def k0_dev140 (d0 : Dev nD) : Nat :=
  let c0_i32_2647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2638 : BitVec 32 := 16#32
  let v2182 : BitVec 32 := Scalar.addi v2 c16_i32_2638
  let c32_i32_2639 : BitVec 32 := 32#32
  let v2183 : BitVec 32 := Scalar.remsi v2182 c32_i32_2639
  let c1_i32_2646 : BitVec 32 := 1#32
  let v2186 : BitVec 32 := Scalar.muli v2183 c1_i32_2646
  let v2187 : BitVec 32 := Scalar.addi c0_i32_2647 v2186
  v2187.toNat
def k0_dev141 (d0 : Dev nD) : Nat :=
  let c0_i32_2659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2650 : BitVec 32 := 17#32
  let v2194 : BitVec 32 := Scalar.addi v2 c17_i32_2650
  let c32_i32_2651 : BitVec 32 := 32#32
  let v2195 : BitVec 32 := Scalar.remsi v2194 c32_i32_2651
  let c1_i32_2658 : BitVec 32 := 1#32
  let v2198 : BitVec 32 := Scalar.muli v2195 c1_i32_2658
  let v2199 : BitVec 32 := Scalar.addi c0_i32_2659 v2198
  v2199.toNat
def k0_dev142 (d0 : Dev nD) : Nat :=
  let c0_i32_2671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2662 : BitVec 32 := 18#32
  let v2206 : BitVec 32 := Scalar.addi v2 c18_i32_2662
  let c32_i32_2663 : BitVec 32 := 32#32
  let v2207 : BitVec 32 := Scalar.remsi v2206 c32_i32_2663
  let c1_i32_2670 : BitVec 32 := 1#32
  let v2210 : BitVec 32 := Scalar.muli v2207 c1_i32_2670
  let v2211 : BitVec 32 := Scalar.addi c0_i32_2671 v2210
  v2211.toNat
def k0_dev143 (d0 : Dev nD) : Nat :=
  let c0_i32_2683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2674 : BitVec 32 := 19#32
  let v2218 : BitVec 32 := Scalar.addi v2 c19_i32_2674
  let c32_i32_2675 : BitVec 32 := 32#32
  let v2219 : BitVec 32 := Scalar.remsi v2218 c32_i32_2675
  let c1_i32_2682 : BitVec 32 := 1#32
  let v2222 : BitVec 32 := Scalar.muli v2219 c1_i32_2682
  let v2223 : BitVec 32 := Scalar.addi c0_i32_2683 v2222
  v2223.toNat
def k0_dev144 (d0 : Dev nD) : Nat :=
  let c0_i32_2695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2686 : BitVec 32 := 20#32
  let v2230 : BitVec 32 := Scalar.addi v2 c20_i32_2686
  let c32_i32_2687 : BitVec 32 := 32#32
  let v2231 : BitVec 32 := Scalar.remsi v2230 c32_i32_2687
  let c1_i32_2694 : BitVec 32 := 1#32
  let v2234 : BitVec 32 := Scalar.muli v2231 c1_i32_2694
  let v2235 : BitVec 32 := Scalar.addi c0_i32_2695 v2234
  v2235.toNat
def k0_dev145 (d0 : Dev nD) : Nat :=
  let c0_i32_2707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2698 : BitVec 32 := 21#32
  let v2242 : BitVec 32 := Scalar.addi v2 c21_i32_2698
  let c32_i32_2699 : BitVec 32 := 32#32
  let v2243 : BitVec 32 := Scalar.remsi v2242 c32_i32_2699
  let c1_i32_2706 : BitVec 32 := 1#32
  let v2246 : BitVec 32 := Scalar.muli v2243 c1_i32_2706
  let v2247 : BitVec 32 := Scalar.addi c0_i32_2707 v2246
  v2247.toNat
def k0_dev146 (d0 : Dev nD) : Nat :=
  let c0_i32_2719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2710 : BitVec 32 := 22#32
  let v2254 : BitVec 32 := Scalar.addi v2 c22_i32_2710
  let c32_i32_2711 : BitVec 32 := 32#32
  let v2255 : BitVec 32 := Scalar.remsi v2254 c32_i32_2711
  let c1_i32_2718 : BitVec 32 := 1#32
  let v2258 : BitVec 32 := Scalar.muli v2255 c1_i32_2718
  let v2259 : BitVec 32 := Scalar.addi c0_i32_2719 v2258
  v2259.toNat
def k0_dev147 (d0 : Dev nD) : Nat :=
  let c0_i32_2731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2722 : BitVec 32 := 23#32
  let v2266 : BitVec 32 := Scalar.addi v2 c23_i32_2722
  let c32_i32_2723 : BitVec 32 := 32#32
  let v2267 : BitVec 32 := Scalar.remsi v2266 c32_i32_2723
  let c1_i32_2730 : BitVec 32 := 1#32
  let v2270 : BitVec 32 := Scalar.muli v2267 c1_i32_2730
  let v2271 : BitVec 32 := Scalar.addi c0_i32_2731 v2270
  v2271.toNat
def k0_dev148 (d0 : Dev nD) : Nat :=
  let c0_i32_2743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2734 : BitVec 32 := 24#32
  let v2278 : BitVec 32 := Scalar.addi v2 c24_i32_2734
  let c32_i32_2735 : BitVec 32 := 32#32
  let v2279 : BitVec 32 := Scalar.remsi v2278 c32_i32_2735
  let c1_i32_2742 : BitVec 32 := 1#32
  let v2282 : BitVec 32 := Scalar.muli v2279 c1_i32_2742
  let v2283 : BitVec 32 := Scalar.addi c0_i32_2743 v2282
  v2283.toNat
def k0_dev149 (d0 : Dev nD) : Nat :=
  let c0_i32_2755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2746 : BitVec 32 := 25#32
  let v2290 : BitVec 32 := Scalar.addi v2 c25_i32_2746
  let c32_i32_2747 : BitVec 32 := 32#32
  let v2291 : BitVec 32 := Scalar.remsi v2290 c32_i32_2747
  let c1_i32_2754 : BitVec 32 := 1#32
  let v2294 : BitVec 32 := Scalar.muli v2291 c1_i32_2754
  let v2295 : BitVec 32 := Scalar.addi c0_i32_2755 v2294
  v2295.toNat
def k0_dev150 (d0 : Dev nD) : Nat :=
  let c0_i32_2767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2758 : BitVec 32 := 26#32
  let v2302 : BitVec 32 := Scalar.addi v2 c26_i32_2758
  let c32_i32_2759 : BitVec 32 := 32#32
  let v2303 : BitVec 32 := Scalar.remsi v2302 c32_i32_2759
  let c1_i32_2766 : BitVec 32 := 1#32
  let v2306 : BitVec 32 := Scalar.muli v2303 c1_i32_2766
  let v2307 : BitVec 32 := Scalar.addi c0_i32_2767 v2306
  v2307.toNat
def k0_dev151 (d0 : Dev nD) : Nat :=
  let c0_i32_2779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2770 : BitVec 32 := 27#32
  let v2314 : BitVec 32 := Scalar.addi v2 c27_i32_2770
  let c32_i32_2771 : BitVec 32 := 32#32
  let v2315 : BitVec 32 := Scalar.remsi v2314 c32_i32_2771
  let c1_i32_2778 : BitVec 32 := 1#32
  let v2318 : BitVec 32 := Scalar.muli v2315 c1_i32_2778
  let v2319 : BitVec 32 := Scalar.addi c0_i32_2779 v2318
  v2319.toNat
def k0_dev152 (d0 : Dev nD) : Nat :=
  let c0_i32_2791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2782 : BitVec 32 := 28#32
  let v2326 : BitVec 32 := Scalar.addi v2 c28_i32_2782
  let c32_i32_2783 : BitVec 32 := 32#32
  let v2327 : BitVec 32 := Scalar.remsi v2326 c32_i32_2783
  let c1_i32_2790 : BitVec 32 := 1#32
  let v2330 : BitVec 32 := Scalar.muli v2327 c1_i32_2790
  let v2331 : BitVec 32 := Scalar.addi c0_i32_2791 v2330
  v2331.toNat
def k0_dev153 (d0 : Dev nD) : Nat :=
  let c0_i32_2803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2794 : BitVec 32 := 29#32
  let v2338 : BitVec 32 := Scalar.addi v2 c29_i32_2794
  let c32_i32_2795 : BitVec 32 := 32#32
  let v2339 : BitVec 32 := Scalar.remsi v2338 c32_i32_2795
  let c1_i32_2802 : BitVec 32 := 1#32
  let v2342 : BitVec 32 := Scalar.muli v2339 c1_i32_2802
  let v2343 : BitVec 32 := Scalar.addi c0_i32_2803 v2342
  v2343.toNat
def k0_dev154 (d0 : Dev nD) : Nat :=
  let c0_i32_2815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2806 : BitVec 32 := 30#32
  let v2350 : BitVec 32 := Scalar.addi v2 c30_i32_2806
  let c32_i32_2807 : BitVec 32 := 32#32
  let v2351 : BitVec 32 := Scalar.remsi v2350 c32_i32_2807
  let c1_i32_2814 : BitVec 32 := 1#32
  let v2354 : BitVec 32 := Scalar.muli v2351 c1_i32_2814
  let v2355 : BitVec 32 := Scalar.addi c0_i32_2815 v2354
  v2355.toNat
def k0_dev155 (d0 : Dev nD) : Nat :=
  let c0_i32_2827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2818 : BitVec 32 := 31#32
  let v2362 : BitVec 32 := Scalar.addi v2 c31_i32_2818
  let c32_i32_2819 : BitVec 32 := 32#32
  let v2363 : BitVec 32 := Scalar.remsi v2362 c32_i32_2819
  let c1_i32_2826 : BitVec 32 := 1#32
  let v2366 : BitVec 32 := Scalar.muli v2363 c1_i32_2826
  let v2367 : BitVec 32 := Scalar.addi c0_i32_2827 v2366
  v2367.toNat
def k0_off7 (d0 : Dev nD) (c1_i32_3451 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_3450 : BitVec 32 := 32#32
  let v2684 : BitVec 32 := Scalar.addi v2 c32_i32_3450
  let v2685 : BitVec 32 := Scalar.subi v2684 c1_i32_3451
  let c32_i32_3452 : BitVec 32 := 32#32
  let v2686 : BitVec 32 := Scalar.remsi v2685 c32_i32_3452
  let c32_i32_3454 : BitVec 32 := 32#32
  let v2688 : BitVec 32 := Scalar.muli v2686 c32_i32_3454
  let c0_i32_3461 : BitVec 32 := 0#32
  ![v2688.toNat, 0]
def k0_off8 (d0 : Dev nD) (c1_i32_3858 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_3857 : BitVec 32 := 32#32
  let v3028 : BitVec 32 := Scalar.addi v2 c32_i32_3857
  let v3029 : BitVec 32 := Scalar.subi v3028 c1_i32_3858
  let c32_i32_3859 : BitVec 32 := 32#32
  let v3030 : BitVec 32 := Scalar.remsi v3029 c32_i32_3859
  let c32_i32_3861 : BitVec 32 := 32#32
  let v3032 : BitVec 32 := Scalar.muli v3030 c32_i32_3861
  let c512_i32_3868 : BitVec 32 := 512#32
  ![v3032.toNat, 512]
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  bitsLt_bf16_f32 : FTy.bits .bf16 < FTy.bits .f32
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  slices_S32x1024_o0_0_S32x512 : S32x1024.Slices ![0, 0] S32x512
  inb_S1024x1024_S1024x512_0_0 : ∀ a, (![0, 0] : Fin 2 → Nat) a + S1024x512.size a ≤ S1024x1024.size a
  h_S1024x512 : 0 < S1024x512.numel
  shapeCasts_S1024x512_S1024x512 : S1024x512.ShapeCasts S1024x512
  packedbf16_S1024x1024_S1024x512_0_0 : (Rect.unit (s := S1024x1024) ![0, 0] S1024x512.size inb_S1024x1024_S1024x512_0_0).PackedRows (EltTy.packing .bf16)
  h_S32x512 : 0 < S32x512.numel
  inb_S2x32x32x512_S1x1x32x512_0_0_0_0 : ∀ a, (![0, 0, 0, 0] : Fin 4 → Nat) a + S1x1x32x512.size a ≤ S2x32x32x512.size a
  h_S1x1x32x512 : 0 < S1x1x32x512.numel
  shapeCasts_S1x1x32x512_S32x512 : S1x1x32x512.ShapeCasts S32x512
  shapeCasts_S32x512_S1x1x32x512 : S32x512.ShapeCasts S1x1x32x512
  packedbf16_S2x32x32x512_S1x1x32x512_0_0_0_0 : (Rect.unit (s := S2x32x32x512) ![0, 0, 0, 0] S1x1x32x512.size inb_S2x32x32x512_S1x1x32x512_0_0_0_0).PackedRows (EltTy.packing .bf16)
  hamt_31 : (31#32 : BitVec 32).msb = false
  inb_S2x32_S1x1_0_1 : ∀ a, (![0, 1] : Fin 2 → Nat) a + S1x1.size a ≤ S2x32.size a
  squeezes_S1x1_S_ : S1x1.Squeezes S_
  inb_S2x32x32x512_S1x1x32x512_0_1_0_0 : ∀ a, (![0, 1, 0, 0] : Fin 4 → Nat) a + S1x1x32x512.size a ≤ S2x32x32x512.size a
  squeezes_S1x1x32x512_S32x512 : S1x1x32x512.Squeezes S32x512
  wordsbf16_S2x32x32x512_S1x1x32x512_0_1_0_0 : (Rect.unit (s := S2x32x32x512) ![0, 1, 0, 0] S1x1x32x512.size inb_S2x32x32x512_S1x1x32x512_0_1_0_0).WholeWords (EltTy.packing .bf16)
  inb_S2x32_S1x1_0_2 : ∀ a, (![0, 2] : Fin 2 → Nat) a + S1x1.size a ≤ S2x32.size a
  inb_S2x32x32x512_S1x1x32x512_0_2_0_0 : ∀ a, (![0, 2, 0, 0] : Fin 4 → Nat) a + S1x1x32x512.size a ≤ S2x32x32x512.size a
  wordsbf16_S2x32x32x512_S1x1x32x512_0_2_0_0 : (Rect.unit (s := S2x32x32x512) ![0, 2, 0, 0] S1x1x32x512.size inb_S2x32x32x512_S1x1x32x512_0_2_0_0).WholeWords (EltTy.packing .bf16)
  inb_S2x32_S1x1_0_3 : ∀ a, (![0, 3] : Fin 2 → Nat) a + S1x1.size a ≤ S2x32.size a
  inb_S2x32x32x512_S1x1x32x512_0_3_0_0 : ∀ a, (![0, 3, 0, 0] : Fin 4 → Nat) a + S1x1x32x512.size a ≤ S2x32x32x512.size a
  wordsbf16_S2x32x32x512_S1x1x32x512_0_3_0_0 : (Rect.unit (s := S2x32x32x512) ![0, 3, 0, 0] S1x1x32x512.size inb_S2x32x32x512_S1x1x32x512_0_3_0_0).WholeWords (EltTy.packing .bf16)
  inb_S2x32_S1x1_0_4 : ∀ a, (![0, 4] : Fin 2 → Nat) a + S1x1.size a ≤ S2x32.size a
  inb_S2x32x32x512_S1x1x32x512_0_4_0_0 : ∀ a, (![0, 4, 0, 0] : Fin 4 → Nat) a + S1x1x32x512.size a ≤ S2x32x32x512.size a
  wordsbf16_S2x32x32x512_S1x1x32x512_0_4_0_0 : (Rect.unit (s := S2x32x32x512) ![0, 4, 0, 0] S1x1x32x512.size inb_S2x32x32x512_S1x1x32x512_0_4_0_0).WholeWords (EltTy.packing .bf16)
  inb_S2x32_S1x1_0_5 : ∀ a, (![0, 5] : Fin 2 → Nat) a + S1x1.size a ≤ S2x32.size a
  inb_S2x32x32x512_S1x1x32x512_0_5_0_0 : ∀ a, (![0, 5, 0, 0] : Fin 4 → Nat) a + S1x1x32x512.size a ≤ S2x32x32x512.size a
  wordsbf16_S2x32x32x512_S1x1x32x512_0_5_0_0 : (Rect.unit (s := S2x32x32x512) ![0, 5, 0, 0] S1x1x32x512.size inb_S2x32x32x512_S1x1x32x512_0_5_0_0).WholeWords (EltTy.packing .bf16)
  inb_S2x32_S1x1_0_6 : ∀ a, (![0, 6] : Fin 2 → Nat) a + S1x1.size a ≤ S2x32.size a
  inb_S2x32x32x512_S1x1x32x512_0_6_0_0 : ∀ a, (![0, 6, 0, 0] : Fin 4 → Nat) a + S1x1x32x512.size a ≤ S2x32x32x512.size a
  wordsbf16_S2x32x32x512_S1x1x32x512_0_6_0_0 : (Rect.unit (s := S2x32x32x512) ![0, 6, 0, 0] S1x1x32x512.size inb_S2x32x32x512_S1x1x32x512_0_6_0_0).WholeWords (EltTy.packing .bf16)
  inb_S2x32_S1x1_0_7 : ∀ a, (![0, 7] : Fin 2 → Nat) a + S1x1.size a ≤ S2x32.size a
  inb_S2x32x32x512_S1x1x32x512_0_7_0_0 : ∀ a, (![0, 7, 0, 0] : Fin 4 → Nat) a + S1x1x32x512.size a ≤ S2x32x32x512.size a
  wordsbf16_S2x32x32x512_S1x1x32x512_0_7_0_0 : (Rect.unit (s := S2x32x32x512) ![0, 7, 0, 0] S1x1x32x512.size inb_S2x32x32x512_S1x1x32x512_0_7_0_0).WholeWords (EltTy.packing .bf16)
  inb_S2x32_S1x1_0_8 : ∀ a, (![0, 8] : Fin 2 → Nat) a + S1x1.size a ≤ S2x32.size a
  inb_S2x32x32x512_S1x1x32x512_0_8_0_0 : ∀ a, (![0, 8, 0, 0] : Fin 4 → Nat) a + S1x1x32x512.size a ≤ S2x32x32x512.size a
  wordsbf16_S2x32x32x512_S1x1x32x512_0_8_0_0 : (Rect.unit (s := S2x32x32x512) ![0, 8, 0, 0] S1x1x32x512.size inb_S2x32x32x512_S1x1x32x512_0_8_0_0).WholeWords (EltTy.packing .bf16)
  inb_S2x32_S1x1_0_9 : ∀ a, (![0, 9] : Fin 2 → Nat) a + S1x1.size a ≤ S2x32.size a
  inb_S2x32x32x512_S1x1x32x512_0_9_0_0 : ∀ a, (![0, 9, 0, 0] : Fin 4 → Nat) a + S1x1x32x512.size a ≤ S2x32x32x512.size a
  wordsbf16_S2x32x32x512_S1x1x32x512_0_9_0_0 : (Rect.unit (s := S2x32x32x512) ![0, 9, 0, 0] S1x1x32x512.size inb_S2x32x32x512_S1x1x32x512_0_9_0_0).WholeWords (EltTy.packing .bf16)
  inb_S2x32_S1x1_0_10 : ∀ a, (![0, 10] : Fin 2 → Nat) a + S1x1.size a ≤ S2x32.size a
  inb_S2x32x32x512_S1x1x32x512_0_10_0_0 : ∀ a, (![0, 10, 0, 0] : Fin 4 → Nat) a + S1x1x32x512.size a ≤ S2x32x32x512.size a
  wordsbf16_S2x32x32x512_S1x1x32x512_0_10_0_0 : (Rect.unit (s := S2x32x32x512) ![0, 10, 0, 0] S1x1x32x512.size inb_S2x32x32x512_S1x1x32x512_0_10_0_0).WholeWords (EltTy.packing .bf16)
  inb_S2x32_S1x1_0_11 : ∀ a, (![0, 11] : Fin 2 → Nat) a + S1x1.size a ≤ S2x32.size a
  inb_S2x32x32x512_S1x1x32x512_0_11_0_0 : ∀ a, (![0, 11, 0, 0] : Fin 4 → Nat) a + S1x1x32x512.size a ≤ S2x32x32x512.size a
  wordsbf16_S2x32x32x512_S1x1x32x512_0_11_0_0 : (Rect.unit (s := S2x32x32x512) ![0, 11, 0, 0] S1x1x32x512.size inb_S2x32x32x512_S1x1x32x512_0_11_0_0).WholeWords (EltTy.packing .bf16)
  inb_S2x32_S1x1_0_12 : ∀ a, (![0, 12] : Fin 2 → Nat) a + S1x1.size a ≤ S2x32.size a
  inb_S2x32x32x512_S1x1x32x512_0_12_0_0 : ∀ a, (![0, 12, 0, 0] : Fin 4 → Nat) a + S1x1x32x512.size a ≤ S2x32x32x512.size a
  wordsbf16_S2x32x32x512_S1x1x32x512_0_12_0_0 : (Rect.unit (s := S2x32x32x512) ![0, 12, 0, 0] S1x1x32x512.size inb_S2x32x32x512_S1x1x32x512_0_12_0_0).WholeWords (EltTy.packing .bf16)
  inb_S2x32_S1x1_0_13 : ∀ a, (![0, 13] : Fin 2 → Nat) a + S1x1.size a ≤ S2x32.size a
  inb_S2x32x32x512_S1x1x32x512_0_13_0_0 : ∀ a, (![0, 13, 0, 0] : Fin 4 → Nat) a + S1x1x32x512.size a ≤ S2x32x32x512.size a
  wordsbf16_S2x32x32x512_S1x1x32x512_0_13_0_0 : (Rect.unit (s := S2x32x32x512) ![0, 13, 0, 0] S1x1x32x512.size inb_S2x32x32x512_S1x1x32x512_0_13_0_0).WholeWords (EltTy.packing .bf16)
  inb_S2x32_S1x1_0_14 : ∀ a, (![0, 14] : Fin 2 → Nat) a + S1x1.size a ≤ S2x32.size a
  inb_S2x32x32x512_S1x1x32x512_0_14_0_0 : ∀ a, (![0, 14, 0, 0] : Fin 4 → Nat) a + S1x1x32x512.size a ≤ S2x32x32x512.size a
  wordsbf16_S2x32x32x512_S1x1x32x512_0_14_0_0 : (Rect.unit (s := S2x32x32x512) ![0, 14, 0, 0] S1x1x32x512.size inb_S2x32x32x512_S1x1x32x512_0_14_0_0).WholeWords (EltTy.packing .bf16)
  inb_S2x32_S1x1_0_15 : ∀ a, (![0, 15] : Fin 2 → Nat) a + S1x1.size a ≤ S2x32.size a
  inb_S2x32x32x512_S1x1x32x512_0_15_0_0 : ∀ a, (![0, 15, 0, 0] : Fin 4 → Nat) a + S1x1x32x512.size a ≤ S2x32x32x512.size a
  wordsbf16_S2x32x32x512_S1x1x32x512_0_15_0_0 : (Rect.unit (s := S2x32x32x512) ![0, 15, 0, 0] S1x1x32x512.size inb_S2x32x32x512_S1x1x32x512_0_15_0_0).WholeWords (EltTy.packing .bf16)
  inb_S2x32_S1x1_0_16 : ∀ a, (![0, 16] : Fin 2 → Nat) a + S1x1.size a ≤ S2x32.size a
  inb_S2x32x32x512_S1x1x32x512_0_16_0_0 : ∀ a, (![0, 16, 0, 0] : Fin 4 → Nat) a + S1x1x32x512.size a ≤ S2x32x32x512.size a
  wordsbf16_S2x32x32x512_S1x1x32x512_0_16_0_0 : (Rect.unit (s := S2x32x32x512) ![0, 16, 0, 0] S1x1x32x512.size inb_S2x32x32x512_S1x1x32x512_0_16_0_0).WholeWords (EltTy.packing .bf16)
  inb_S2x32_S1x1_0_17 : ∀ a, (![0, 17] : Fin 2 → Nat) a + S1x1.size a ≤ S2x32.size a
  inb_S2x32x32x512_S1x1x32x512_0_17_0_0 : ∀ a, (![0, 17, 0, 0] : Fin 4 → Nat) a + S1x1x32x512.size a ≤ S2x32x32x512.size a
  wordsbf16_S2x32x32x512_S1x1x32x512_0_17_0_0 : (Rect.unit (s := S2x32x32x512) ![0, 17, 0, 0] S1x1x32x512.size inb_S2x32x32x512_S1x1x32x512_0_17_0_0).WholeWords (EltTy.packing .bf16)
  inb_S2x32_S1x1_0_18 : ∀ a, (![0, 18] : Fin 2 → Nat) a + S1x1.size a ≤ S2x32.size a
  inb_S2x32x32x512_S1x1x32x512_0_18_0_0 : ∀ a, (![0, 18, 0, 0] : Fin 4 → Nat) a + S1x1x32x512.size a ≤ S2x32x32x512.size a
  wordsbf16_S2x32x32x512_S1x1x32x512_0_18_0_0 : (Rect.unit (s := S2x32x32x512) ![0, 18, 0, 0] S1x1x32x512.size inb_S2x32x32x512_S1x1x32x512_0_18_0_0).WholeWords (EltTy.packing .bf16)
  inb_S2x32_S1x1_0_19 : ∀ a, (![0, 19] : Fin 2 → Nat) a + S1x1.size a ≤ S2x32.size a
  inb_S2x32x32x512_S1x1x32x512_0_19_0_0 : ∀ a, (![0, 19, 0, 0] : Fin 4 → Nat) a + S1x1x32x512.size a ≤ S2x32x32x512.size a
  wordsbf16_S2x32x32x512_S1x1x32x512_0_19_0_0 : (Rect.unit (s := S2x32x32x512) ![0, 19, 0, 0] S1x1x32x512.size inb_S2x32x32x512_S1x1x32x512_0_19_0_0).WholeWords (EltTy.packing .bf16)
  inb_S2x32_S1x1_0_20 : ∀ a, (![0, 20] : Fin 2 → Nat) a + S1x1.size a ≤ S2x32.size a
  inb_S2x32x32x512_S1x1x32x512_0_20_0_0 : ∀ a, (![0, 20, 0, 0] : Fin 4 → Nat) a + S1x1x32x512.size a ≤ S2x32x32x512.size a
  wordsbf16_S2x32x32x512_S1x1x32x512_0_20_0_0 : (Rect.unit (s := S2x32x32x512) ![0, 20, 0, 0] S1x1x32x512.size inb_S2x32x32x512_S1x1x32x512_0_20_0_0).WholeWords (EltTy.packing .bf16)
  inb_S2x32_S1x1_0_21 : ∀ a, (![0, 21] : Fin 2 → Nat) a + S1x1.size a ≤ S2x32.size a
  inb_S2x32x32x512_S1x1x32x512_0_21_0_0 : ∀ a, (![0, 21, 0, 0] : Fin 4 → Nat) a + S1x1x32x512.size a ≤ S2x32x32x512.size a
  wordsbf16_S2x32x32x512_S1x1x32x512_0_21_0_0 : (Rect.unit (s := S2x32x32x512) ![0, 21, 0, 0] S1x1x32x512.size inb_S2x32x32x512_S1x1x32x512_0_21_0_0).WholeWords (EltTy.packing .bf16)
  inb_S2x32_S1x1_0_22 : ∀ a, (![0, 22] : Fin 2 → Nat) a + S1x1.size a ≤ S2x32.size a
  inb_S2x32x32x512_S1x1x32x512_0_22_0_0 : ∀ a, (![0, 22, 0, 0] : Fin 4 → Nat) a + S1x1x32x512.size a ≤ S2x32x32x512.size a
  wordsbf16_S2x32x32x512_S1x1x32x512_0_22_0_0 : (Rect.unit (s := S2x32x32x512) ![0, 22, 0, 0] S1x1x32x512.size inb_S2x32x32x512_S1x1x32x512_0_22_0_0).WholeWords (EltTy.packing .bf16)
  inb_S2x32_S1x1_0_23 : ∀ a, (![0, 23] : Fin 2 → Nat) a + S1x1.size a ≤ S2x32.size a
  inb_S2x32x32x512_S1x1x32x512_0_23_0_0 : ∀ a, (![0, 23, 0, 0] : Fin 4 → Nat) a + S1x1x32x512.size a ≤ S2x32x32x512.size a
  wordsbf16_S2x32x32x512_S1x1x32x512_0_23_0_0 : (Rect.unit (s := S2x32x32x512) ![0, 23, 0, 0] S1x1x32x512.size inb_S2x32x32x512_S1x1x32x512_0_23_0_0).WholeWords (EltTy.packing .bf16)
  inb_S2x32_S1x1_0_24 : ∀ a, (![0, 24] : Fin 2 → Nat) a + S1x1.size a ≤ S2x32.size a
  inb_S2x32x32x512_S1x1x32x512_0_24_0_0 : ∀ a, (![0, 24, 0, 0] : Fin 4 → Nat) a + S1x1x32x512.size a ≤ S2x32x32x512.size a
  wordsbf16_S2x32x32x512_S1x1x32x512_0_24_0_0 : (Rect.unit (s := S2x32x32x512) ![0, 24, 0, 0] S1x1x32x512.size inb_S2x32x32x512_S1x1x32x512_0_24_0_0).WholeWords (EltTy.packing .bf16)
  inb_S2x32_S1x1_0_25 : ∀ a, (![0, 25] : Fin 2 → Nat) a + S1x1.size a ≤ S2x32.size a
  inb_S2x32x32x512_S1x1x32x512_0_25_0_0 : ∀ a, (![0, 25, 0, 0] : Fin 4 → Nat) a + S1x1x32x512.size a ≤ S2x32x32x512.size a
  wordsbf16_S2x32x32x512_S1x1x32x512_0_25_0_0 : (Rect.unit (s := S2x32x32x512) ![0, 25, 0, 0] S1x1x32x512.size inb_S2x32x32x512_S1x1x32x512_0_25_0_0).WholeWords (EltTy.packing .bf16)
  inb_S2x32_S1x1_0_26 : ∀ a, (![0, 26] : Fin 2 → Nat) a + S1x1.size a ≤ S2x32.size a
  inb_S2x32x32x512_S1x1x32x512_0_26_0_0 : ∀ a, (![0, 26, 0, 0] : Fin 4 → Nat) a + S1x1x32x512.size a ≤ S2x32x32x512.size a
  wordsbf16_S2x32x32x512_S1x1x32x512_0_26_0_0 : (Rect.unit (s := S2x32x32x512) ![0, 26, 0, 0] S1x1x32x512.size inb_S2x32x32x512_S1x1x32x512_0_26_0_0).WholeWords (EltTy.packing .bf16)
  inb_S2x32_S1x1_0_27 : ∀ a, (![0, 27] : Fin 2 → Nat) a + S1x1.size a ≤ S2x32.size a
  inb_S2x32x32x512_S1x1x32x512_0_27_0_0 : ∀ a, (![0, 27, 0, 0] : Fin 4 → Nat) a + S1x1x32x512.size a ≤ S2x32x32x512.size a
  wordsbf16_S2x32x32x512_S1x1x32x512_0_27_0_0 : (Rect.unit (s := S2x32x32x512) ![0, 27, 0, 0] S1x1x32x512.size inb_S2x32x32x512_S1x1x32x512_0_27_0_0).WholeWords (EltTy.packing .bf16)
  inb_S2x32_S1x1_0_28 : ∀ a, (![0, 28] : Fin 2 → Nat) a + S1x1.size a ≤ S2x32.size a
  inb_S2x32x32x512_S1x1x32x512_0_28_0_0 : ∀ a, (![0, 28, 0, 0] : Fin 4 → Nat) a + S1x1x32x512.size a ≤ S2x32x32x512.size a
  wordsbf16_S2x32x32x512_S1x1x32x512_0_28_0_0 : (Rect.unit (s := S2x32x32x512) ![0, 28, 0, 0] S1x1x32x512.size inb_S2x32x32x512_S1x1x32x512_0_28_0_0).WholeWords (EltTy.packing .bf16)
  inb_S2x32_S1x1_0_29 : ∀ a, (![0, 29] : Fin 2 → Nat) a + S1x1.size a ≤ S2x32.size a
  inb_S2x32x32x512_S1x1x32x512_0_29_0_0 : ∀ a, (![0, 29, 0, 0] : Fin 4 → Nat) a + S1x1x32x512.size a ≤ S2x32x32x512.size a
  wordsbf16_S2x32x32x512_S1x1x32x512_0_29_0_0 : (Rect.unit (s := S2x32x32x512) ![0, 29, 0, 0] S1x1x32x512.size inb_S2x32x32x512_S1x1x32x512_0_29_0_0).WholeWords (EltTy.packing .bf16)
  inb_S2x32_S1x1_0_30 : ∀ a, (![0, 30] : Fin 2 → Nat) a + S1x1.size a ≤ S2x32.size a
  inb_S2x32x32x512_S1x1x32x512_0_30_0_0 : ∀ a, (![0, 30, 0, 0] : Fin 4 → Nat) a + S1x1x32x512.size a ≤ S2x32x32x512.size a
  wordsbf16_S2x32x32x512_S1x1x32x512_0_30_0_0 : (Rect.unit (s := S2x32x32x512) ![0, 30, 0, 0] S1x1x32x512.size inb_S2x32x32x512_S1x1x32x512_0_30_0_0).WholeWords (EltTy.packing .bf16)
  inb_S2x32_S1x1_0_31 : ∀ a, (![0, 31] : Fin 2 → Nat) a + S1x1.size a ≤ S2x32.size a
  inb_S2x32x32x512_S1x1x32x512_0_31_0_0 : ∀ a, (![0, 31, 0, 0] : Fin 4 → Nat) a + S1x1x32x512.size a ≤ S2x32x32x512.size a
  wordsbf16_S2x32x32x512_S1x1x32x512_0_31_0_0 : (Rect.unit (s := S2x32x32x512) ![0, 31, 0, 0] S1x1x32x512.size inb_S2x32x32x512_S1x1x32x512_0_31_0_0).WholeWords (EltTy.packing .bf16)
  slices_S32x1024_o0_512_S32x512 : S32x1024.Slices ![0, 512] S32x512
  inb_S1024x1024_S1024x512_0_512 : ∀ a, (![0, 512] : Fin 2 → Nat) a + S1024x512.size a ≤ S1024x1024.size a
  packedbf16_S1024x1024_S1024x512_0_512 : (Rect.unit (s := S1024x1024) ![0, 512] S1024x512.size inb_S1024x1024_S1024x512_0_512).PackedRows (EltTy.packing .bf16)
  inb_S2x32x32x512_S1x1x32x512_1_0_0_0 : ∀ a, (![1, 0, 0, 0] : Fin 4 → Nat) a + S1x1x32x512.size a ≤ S2x32x32x512.size a
  packedbf16_S2x32x32x512_S1x1x32x512_1_0_0_0 : (Rect.unit (s := S2x32x32x512) ![1, 0, 0, 0] S1x1x32x512.size inb_S2x32x32x512_S1x1x32x512_1_0_0_0).PackedRows (EltTy.packing .bf16)
  inb_S2x32_S1x1_1_1 : ∀ a, (![1, 1] : Fin 2 → Nat) a + S1x1.size a ≤ S2x32.size a
  inb_S2x32x32x512_S1x1x32x512_1_1_0_0 : ∀ a, (![1, 1, 0, 0] : Fin 4 → Nat) a + S1x1x32x512.size a ≤ S2x32x32x512.size a
  wordsbf16_S2x32x32x512_S1x1x32x512_1_1_0_0 : (Rect.unit (s := S2x32x32x512) ![1, 1, 0, 0] S1x1x32x512.size inb_S2x32x32x512_S1x1x32x512_1_1_0_0).WholeWords (EltTy.packing .bf16)
  inb_S2x32_S1x1_1_2 : ∀ a, (![1, 2] : Fin 2 → Nat) a + S1x1.size a ≤ S2x32.size a
  inb_S2x32x32x512_S1x1x32x512_1_2_0_0 : ∀ a, (![1, 2, 0, 0] : Fin 4 → Nat) a + S1x1x32x512.size a ≤ S2x32x32x512.size a
  wordsbf16_S2x32x32x512_S1x1x32x512_1_2_0_0 : (Rect.unit (s := S2x32x32x512) ![1, 2, 0, 0] S1x1x32x512.size inb_S2x32x32x512_S1x1x32x512_1_2_0_0).WholeWords (EltTy.packing .bf16)
  inb_S2x32_S1x1_1_3 : ∀ a, (![1, 3] : Fin 2 → Nat) a + S1x1.size a ≤ S2x32.size a
  inb_S2x32x32x512_S1x1x32x512_1_3_0_0 : ∀ a, (![1, 3, 0, 0] : Fin 4 → Nat) a + S1x1x32x512.size a ≤ S2x32x32x512.size a
  wordsbf16_S2x32x32x512_S1x1x32x512_1_3_0_0 : (Rect.unit (s := S2x32x32x512) ![1, 3, 0, 0] S1x1x32x512.size inb_S2x32x32x512_S1x1x32x512_1_3_0_0).WholeWords (EltTy.packing .bf16)
  inb_S2x32_S1x1_1_4 : ∀ a, (![1, 4] : Fin 2 → Nat) a + S1x1.size a ≤ S2x32.size a
  inb_S2x32x32x512_S1x1x32x512_1_4_0_0 : ∀ a, (![1, 4, 0, 0] : Fin 4 → Nat) a + S1x1x32x512.size a ≤ S2x32x32x512.size a
  wordsbf16_S2x32x32x512_S1x1x32x512_1_4_0_0 : (Rect.unit (s := S2x32x32x512) ![1, 4, 0, 0] S1x1x32x512.size inb_S2x32x32x512_S1x1x32x512_1_4_0_0).WholeWords (EltTy.packing .bf16)
  inb_S2x32_S1x1_1_5 : ∀ a, (![1, 5] : Fin 2 → Nat) a + S1x1.size a ≤ S2x32.size a
  inb_S2x32x32x512_S1x1x32x512_1_5_0_0 : ∀ a, (![1, 5, 0, 0] : Fin 4 → Nat) a + S1x1x32x512.size a ≤ S2x32x32x512.size a
  wordsbf16_S2x32x32x512_S1x1x32x512_1_5_0_0 : (Rect.unit (s := S2x32x32x512) ![1, 5, 0, 0] S1x1x32x512.size inb_S2x32x32x512_S1x1x32x512_1_5_0_0).WholeWords (EltTy.packing .bf16)
  inb_S2x32_S1x1_1_6 : ∀ a, (![1, 6] : Fin 2 → Nat) a + S1x1.size a ≤ S2x32.size a
  inb_S2x32x32x512_S1x1x32x512_1_6_0_0 : ∀ a, (![1, 6, 0, 0] : Fin 4 → Nat) a + S1x1x32x512.size a ≤ S2x32x32x512.size a
  wordsbf16_S2x32x32x512_S1x1x32x512_1_6_0_0 : (Rect.unit (s := S2x32x32x512) ![1, 6, 0, 0] S1x1x32x512.size inb_S2x32x32x512_S1x1x32x512_1_6_0_0).WholeWords (EltTy.packing .bf16)
  inb_S2x32_S1x1_1_7 : ∀ a, (![1, 7] : Fin 2 → Nat) a + S1x1.size a ≤ S2x32.size a
  inb_S2x32x32x512_S1x1x32x512_1_7_0_0 : ∀ a, (![1, 7, 0, 0] : Fin 4 → Nat) a + S1x1x32x512.size a ≤ S2x32x32x512.size a
  wordsbf16_S2x32x32x512_S1x1x32x512_1_7_0_0 : (Rect.unit (s := S2x32x32x512) ![1, 7, 0, 0] S1x1x32x512.size inb_S2x32x32x512_S1x1x32x512_1_7_0_0).WholeWords (EltTy.packing .bf16)
  inb_S2x32_S1x1_1_8 : ∀ a, (![1, 8] : Fin 2 → Nat) a + S1x1.size a ≤ S2x32.size a
  inb_S2x32x32x512_S1x1x32x512_1_8_0_0 : ∀ a, (![1, 8, 0, 0] : Fin 4 → Nat) a + S1x1x32x512.size a ≤ S2x32x32x512.size a
  wordsbf16_S2x32x32x512_S1x1x32x512_1_8_0_0 : (Rect.unit (s := S2x32x32x512) ![1, 8, 0, 0] S1x1x32x512.size inb_S2x32x32x512_S1x1x32x512_1_8_0_0).WholeWords (EltTy.packing .bf16)
  inb_S2x32_S1x1_1_9 : ∀ a, (![1, 9] : Fin 2 → Nat) a + S1x1.size a ≤ S2x32.size a
  inb_S2x32x32x512_S1x1x32x512_1_9_0_0 : ∀ a, (![1, 9, 0, 0] : Fin 4 → Nat) a + S1x1x32x512.size a ≤ S2x32x32x512.size a
  wordsbf16_S2x32x32x512_S1x1x32x512_1_9_0_0 : (Rect.unit (s := S2x32x32x512) ![1, 9, 0, 0] S1x1x32x512.size inb_S2x32x32x512_S1x1x32x512_1_9_0_0).WholeWords (EltTy.packing .bf16)
  inb_S2x32_S1x1_1_10 : ∀ a, (![1, 10] : Fin 2 → Nat) a + S1x1.size a ≤ S2x32.size a
  inb_S2x32x32x512_S1x1x32x512_1_10_0_0 : ∀ a, (![1, 10, 0, 0] : Fin 4 → Nat) a + S1x1x32x512.size a ≤ S2x32x32x512.size a
  wordsbf16_S2x32x32x512_S1x1x32x512_1_10_0_0 : (Rect.unit (s := S2x32x32x512) ![1, 10, 0, 0] S1x1x32x512.size inb_S2x32x32x512_S1x1x32x512_1_10_0_0).WholeWords (EltTy.packing .bf16)
  inb_S2x32_S1x1_1_11 : ∀ a, (![1, 11] : Fin 2 → Nat) a + S1x1.size a ≤ S2x32.size a
  inb_S2x32x32x512_S1x1x32x512_1_11_0_0 : ∀ a, (![1, 11, 0, 0] : Fin 4 → Nat) a + S1x1x32x512.size a ≤ S2x32x32x512.size a
  wordsbf16_S2x32x32x512_S1x1x32x512_1_11_0_0 : (Rect.unit (s := S2x32x32x512) ![1, 11, 0, 0] S1x1x32x512.size inb_S2x32x32x512_S1x1x32x512_1_11_0_0).WholeWords (EltTy.packing .bf16)
  inb_S2x32_S1x1_1_12 : ∀ a, (![1, 12] : Fin 2 → Nat) a + S1x1.size a ≤ S2x32.size a
  inb_S2x32x32x512_S1x1x32x512_1_12_0_0 : ∀ a, (![1, 12, 0, 0] : Fin 4 → Nat) a + S1x1x32x512.size a ≤ S2x32x32x512.size a
  wordsbf16_S2x32x32x512_S1x1x32x512_1_12_0_0 : (Rect.unit (s := S2x32x32x512) ![1, 12, 0, 0] S1x1x32x512.size inb_S2x32x32x512_S1x1x32x512_1_12_0_0).WholeWords (EltTy.packing .bf16)
  inb_S2x32_S1x1_1_13 : ∀ a, (![1, 13] : Fin 2 → Nat) a + S1x1.size a ≤ S2x32.size a
  inb_S2x32x32x512_S1x1x32x512_1_13_0_0 : ∀ a, (![1, 13, 0, 0] : Fin 4 → Nat) a + S1x1x32x512.size a ≤ S2x32x32x512.size a
  wordsbf16_S2x32x32x512_S1x1x32x512_1_13_0_0 : (Rect.unit (s := S2x32x32x512) ![1, 13, 0, 0] S1x1x32x512.size inb_S2x32x32x512_S1x1x32x512_1_13_0_0).WholeWords (EltTy.packing .bf16)
  inb_S2x32_S1x1_1_14 : ∀ a, (![1, 14] : Fin 2 → Nat) a + S1x1.size a ≤ S2x32.size a
  inb_S2x32x32x512_S1x1x32x512_1_14_0_0 : ∀ a, (![1, 14, 0, 0] : Fin 4 → Nat) a + S1x1x32x512.size a ≤ S2x32x32x512.size a
  wordsbf16_S2x32x32x512_S1x1x32x512_1_14_0_0 : (Rect.unit (s := S2x32x32x512) ![1, 14, 0, 0] S1x1x32x512.size inb_S2x32x32x512_S1x1x32x512_1_14_0_0).WholeWords (EltTy.packing .bf16)
  inb_S2x32_S1x1_1_15 : ∀ a, (![1, 15] : Fin 2 → Nat) a + S1x1.size a ≤ S2x32.size a
  inb_S2x32x32x512_S1x1x32x512_1_15_0_0 : ∀ a, (![1, 15, 0, 0] : Fin 4 → Nat) a + S1x1x32x512.size a ≤ S2x32x32x512.size a
  wordsbf16_S2x32x32x512_S1x1x32x512_1_15_0_0 : (Rect.unit (s := S2x32x32x512) ![1, 15, 0, 0] S1x1x32x512.size inb_S2x32x32x512_S1x1x32x512_1_15_0_0).WholeWords (EltTy.packing .bf16)
  inb_S2x32_S1x1_1_16 : ∀ a, (![1, 16] : Fin 2 → Nat) a + S1x1.size a ≤ S2x32.size a
  inb_S2x32x32x512_S1x1x32x512_1_16_0_0 : ∀ a, (![1, 16, 0, 0] : Fin 4 → Nat) a + S1x1x32x512.size a ≤ S2x32x32x512.size a
  wordsbf16_S2x32x32x512_S1x1x32x512_1_16_0_0 : (Rect.unit (s := S2x32x32x512) ![1, 16, 0, 0] S1x1x32x512.size inb_S2x32x32x512_S1x1x32x512_1_16_0_0).WholeWords (EltTy.packing .bf16)
  inb_S2x32_S1x1_1_17 : ∀ a, (![1, 17] : Fin 2 → Nat) a + S1x1.size a ≤ S2x32.size a
  inb_S2x32x32x512_S1x1x32x512_1_17_0_0 : ∀ a, (![1, 17, 0, 0] : Fin 4 → Nat) a + S1x1x32x512.size a ≤ S2x32x32x512.size a
  wordsbf16_S2x32x32x512_S1x1x32x512_1_17_0_0 : (Rect.unit (s := S2x32x32x512) ![1, 17, 0, 0] S1x1x32x512.size inb_S2x32x32x512_S1x1x32x512_1_17_0_0).WholeWords (EltTy.packing .bf16)
  inb_S2x32_S1x1_1_18 : ∀ a, (![1, 18] : Fin 2 → Nat) a + S1x1.size a ≤ S2x32.size a
  inb_S2x32x32x512_S1x1x32x512_1_18_0_0 : ∀ a, (![1, 18, 0, 0] : Fin 4 → Nat) a + S1x1x32x512.size a ≤ S2x32x32x512.size a
  wordsbf16_S2x32x32x512_S1x1x32x512_1_18_0_0 : (Rect.unit (s := S2x32x32x512) ![1, 18, 0, 0] S1x1x32x512.size inb_S2x32x32x512_S1x1x32x512_1_18_0_0).WholeWords (EltTy.packing .bf16)
  inb_S2x32_S1x1_1_19 : ∀ a, (![1, 19] : Fin 2 → Nat) a + S1x1.size a ≤ S2x32.size a
  inb_S2x32x32x512_S1x1x32x512_1_19_0_0 : ∀ a, (![1, 19, 0, 0] : Fin 4 → Nat) a + S1x1x32x512.size a ≤ S2x32x32x512.size a
  wordsbf16_S2x32x32x512_S1x1x32x512_1_19_0_0 : (Rect.unit (s := S2x32x32x512) ![1, 19, 0, 0] S1x1x32x512.size inb_S2x32x32x512_S1x1x32x512_1_19_0_0).WholeWords (EltTy.packing .bf16)
  inb_S2x32_S1x1_1_20 : ∀ a, (![1, 20] : Fin 2 → Nat) a + S1x1.size a ≤ S2x32.size a
  inb_S2x32x32x512_S1x1x32x512_1_20_0_0 : ∀ a, (![1, 20, 0, 0] : Fin 4 → Nat) a + S1x1x32x512.size a ≤ S2x32x32x512.size a
  wordsbf16_S2x32x32x512_S1x1x32x512_1_20_0_0 : (Rect.unit (s := S2x32x32x512) ![1, 20, 0, 0] S1x1x32x512.size inb_S2x32x32x512_S1x1x32x512_1_20_0_0).WholeWords (EltTy.packing .bf16)
  inb_S2x32_S1x1_1_21 : ∀ a, (![1, 21] : Fin 2 → Nat) a + S1x1.size a ≤ S2x32.size a
  inb_S2x32x32x512_S1x1x32x512_1_21_0_0 : ∀ a, (![1, 21, 0, 0] : Fin 4 → Nat) a + S1x1x32x512.size a ≤ S2x32x32x512.size a
  wordsbf16_S2x32x32x512_S1x1x32x512_1_21_0_0 : (Rect.unit (s := S2x32x32x512) ![1, 21, 0, 0] S1x1x32x512.size inb_S2x32x32x512_S1x1x32x512_1_21_0_0).WholeWords (EltTy.packing .bf16)
  inb_S2x32_S1x1_1_22 : ∀ a, (![1, 22] : Fin 2 → Nat) a + S1x1.size a ≤ S2x32.size a
  inb_S2x32x32x512_S1x1x32x512_1_22_0_0 : ∀ a, (![1, 22, 0, 0] : Fin 4 → Nat) a + S1x1x32x512.size a ≤ S2x32x32x512.size a
  wordsbf16_S2x32x32x512_S1x1x32x512_1_22_0_0 : (Rect.unit (s := S2x32x32x512) ![1, 22, 0, 0] S1x1x32x512.size inb_S2x32x32x512_S1x1x32x512_1_22_0_0).WholeWords (EltTy.packing .bf16)
  inb_S2x32_S1x1_1_23 : ∀ a, (![1, 23] : Fin 2 → Nat) a + S1x1.size a ≤ S2x32.size a
  inb_S2x32x32x512_S1x1x32x512_1_23_0_0 : ∀ a, (![1, 23, 0, 0] : Fin 4 → Nat) a + S1x1x32x512.size a ≤ S2x32x32x512.size a
  wordsbf16_S2x32x32x512_S1x1x32x512_1_23_0_0 : (Rect.unit (s := S2x32x32x512) ![1, 23, 0, 0] S1x1x32x512.size inb_S2x32x32x512_S1x1x32x512_1_23_0_0).WholeWords (EltTy.packing .bf16)
  inb_S2x32_S1x1_1_24 : ∀ a, (![1, 24] : Fin 2 → Nat) a + S1x1.size a ≤ S2x32.size a
  inb_S2x32x32x512_S1x1x32x512_1_24_0_0 : ∀ a, (![1, 24, 0, 0] : Fin 4 → Nat) a + S1x1x32x512.size a ≤ S2x32x32x512.size a
  wordsbf16_S2x32x32x512_S1x1x32x512_1_24_0_0 : (Rect.unit (s := S2x32x32x512) ![1, 24, 0, 0] S1x1x32x512.size inb_S2x32x32x512_S1x1x32x512_1_24_0_0).WholeWords (EltTy.packing .bf16)
  inb_S2x32_S1x1_1_25 : ∀ a, (![1, 25] : Fin 2 → Nat) a + S1x1.size a ≤ S2x32.size a
  inb_S2x32x32x512_S1x1x32x512_1_25_0_0 : ∀ a, (![1, 25, 0, 0] : Fin 4 → Nat) a + S1x1x32x512.size a ≤ S2x32x32x512.size a
  wordsbf16_S2x32x32x512_S1x1x32x512_1_25_0_0 : (Rect.unit (s := S2x32x32x512) ![1, 25, 0, 0] S1x1x32x512.size inb_S2x32x32x512_S1x1x32x512_1_25_0_0).WholeWords (EltTy.packing .bf16)
  inb_S2x32_S1x1_1_26 : ∀ a, (![1, 26] : Fin 2 → Nat) a + S1x1.size a ≤ S2x32.size a
  inb_S2x32x32x512_S1x1x32x512_1_26_0_0 : ∀ a, (![1, 26, 0, 0] : Fin 4 → Nat) a + S1x1x32x512.size a ≤ S2x32x32x512.size a
  wordsbf16_S2x32x32x512_S1x1x32x512_1_26_0_0 : (Rect.unit (s := S2x32x32x512) ![1, 26, 0, 0] S1x1x32x512.size inb_S2x32x32x512_S1x1x32x512_1_26_0_0).WholeWords (EltTy.packing .bf16)
  inb_S2x32_S1x1_1_27 : ∀ a, (![1, 27] : Fin 2 → Nat) a + S1x1.size a ≤ S2x32.size a
  inb_S2x32x32x512_S1x1x32x512_1_27_0_0 : ∀ a, (![1, 27, 0, 0] : Fin 4 → Nat) a + S1x1x32x512.size a ≤ S2x32x32x512.size a
  wordsbf16_S2x32x32x512_S1x1x32x512_1_27_0_0 : (Rect.unit (s := S2x32x32x512) ![1, 27, 0, 0] S1x1x32x512.size inb_S2x32x32x512_S1x1x32x512_1_27_0_0).WholeWords (EltTy.packing .bf16)
  inb_S2x32_S1x1_1_28 : ∀ a, (![1, 28] : Fin 2 → Nat) a + S1x1.size a ≤ S2x32.size a
  inb_S2x32x32x512_S1x1x32x512_1_28_0_0 : ∀ a, (![1, 28, 0, 0] : Fin 4 → Nat) a + S1x1x32x512.size a ≤ S2x32x32x512.size a
  wordsbf16_S2x32x32x512_S1x1x32x512_1_28_0_0 : (Rect.unit (s := S2x32x32x512) ![1, 28, 0, 0] S1x1x32x512.size inb_S2x32x32x512_S1x1x32x512_1_28_0_0).WholeWords (EltTy.packing .bf16)
  inb_S2x32_S1x1_1_29 : ∀ a, (![1, 29] : Fin 2 → Nat) a + S1x1.size a ≤ S2x32.size a
  inb_S2x32x32x512_S1x1x32x512_1_29_0_0 : ∀ a, (![1, 29, 0, 0] : Fin 4 → Nat) a + S1x1x32x512.size a ≤ S2x32x32x512.size a
  wordsbf16_S2x32x32x512_S1x1x32x512_1_29_0_0 : (Rect.unit (s := S2x32x32x512) ![1, 29, 0, 0] S1x1x32x512.size inb_S2x32x32x512_S1x1x32x512_1_29_0_0).WholeWords (EltTy.packing .bf16)
  inb_S2x32_S1x1_1_30 : ∀ a, (![1, 30] : Fin 2 → Nat) a + S1x1.size a ≤ S2x32.size a
  inb_S2x32x32x512_S1x1x32x512_1_30_0_0 : ∀ a, (![1, 30, 0, 0] : Fin 4 → Nat) a + S1x1x32x512.size a ≤ S2x32x32x512.size a
  wordsbf16_S2x32x32x512_S1x1x32x512_1_30_0_0 : (Rect.unit (s := S2x32x32x512) ![1, 30, 0, 0] S1x1x32x512.size inb_S2x32x32x512_S1x1x32x512_1_30_0_0).WholeWords (EltTy.packing .bf16)
  inb_S2x32_S1x1_1_31 : ∀ a, (![1, 31] : Fin 2 → Nat) a + S1x1.size a ≤ S2x32.size a
  inb_S2x32x32x512_S1x1x32x512_1_31_0_0 : ∀ a, (![1, 31, 0, 0] : Fin 4 → Nat) a + S1x1x32x512.size a ≤ S2x32x32x512.size a
  wordsbf16_S2x32x32x512_S1x1x32x512_1_31_0_0 : (Rect.unit (s := S2x32x32x512) ![1, 31, 0, 0] S1x1x32x512.size inb_S2x32x32x512_S1x1x32x512_1_31_0_0).WholeWords (EltTy.packing .bf16)
  wordsbf16_S2x32x32x512_S1x1x32x512_0_0_0_0 : (Rect.unit (s := S2x32x32x512) ![0, 0, 0, 0] S1x1x32x512.size inb_S2x32x32x512_S1x1x32x512_0_0_0_0).WholeWords (EltTy.packing .bf16)
  inb_S2x32x32x512_S1x32x32x512_0_0_0_0 : ∀ a, (![0, 0, 0, 0] : Fin 4 → Nat) a + S1x32x32x512.size a ≤ S2x32x32x512.size a
  h_S1x32x32x512 : 0 < S1x32x32x512.numel
  shapeCasts_S1x32x32x512_S32x32x512 : S1x32x32x512.ShapeCasts S32x32x512
  reduces_S32x32x512_S32x512 : S32x32x512.Reduces [0] S32x512
  shapeCasts_S32x512_S32x512 : S32x512.ShapeCasts S32x512
  wordsbf16_S2x32x32x512_S1x1x32x512_1_0_0_0 : (Rect.unit (s := S2x32x32x512) ![1, 0, 0, 0] S1x1x32x512.size inb_S2x32x32x512_S1x1x32x512_1_0_0_0).WholeWords (EltTy.packing .bf16)
  inb_S2x32x32x512_S1x32x32x512_1_0_0_0 : ∀ a, (![1, 0, 0, 0] : Fin 4 → Nat) a + S1x32x32x512.size a ≤ S2x32x32x512.size a
  dot_S1024x32_S32x512_S1024x512_1_0_0_1_n_n_wf : DotDims.WF S1024x32 S32x512 S1024x512 [1] [0] [0] [1] [] []
  hcc0_scratch3 : 3 + S2x32.numel ≤ 259
  hcc0_scratch4 : 67 + S2x32.numel ≤ 259
  hcc0_scratch5 : 131 + S2x32.numel ≤ 259
  hcc0_scratch6 : 195 + S2x32.numel ≤ 259
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off1_inb : ∀ d0 : Dev nD, ∀ a, (k0_off1 d0) a + S32x512.size a ≤ S1024x1024.size a
  k0_off2_inb : ∀ d0 : Dev nD, ∀ (r : Fin 31), ∀ a, (k0_off2 d0 (BitVec.ofNat 32 (1 + r.val))) a + S32x512.size a ≤ S1024x1024.size a
  k0_off2_wordsbf16 : ∀ d0 : Dev nD, ∀ (r : Fin 31), (Rect.unit (s := S1024x1024) (k0_off2 d0 (BitVec.ofNat 32 (1 + r.val))) S32x512.size (k0_off2_inb d0 r)).WholeWords (EltTy.packing .bf16)
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_off3_inb : ∀ d0 : Dev nD, ∀ a, (k0_off3 d0) a + S32x512.size a ≤ S1024x1024.size a
  k0_off4_inb : ∀ d0 : Dev nD, ∀ (r : Fin 31), ∀ a, (k0_off4 d0 (BitVec.ofNat 32 (1 + r.val))) a + S32x512.size a ≤ S1024x1024.size a
  k0_off4_wordsbf16 : ∀ d0 : Dev nD, ∀ (r : Fin 31), (Rect.unit (s := S1024x1024) (k0_off4 d0 (BitVec.ofNat 32 (1 + r.val))) S32x512.size (k0_off4_inb d0 r)).WholeWords (EltTy.packing .bf16)
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  k0_off1_packedbf16 : ∀ d0 : Dev nD, (Rect.unit (s := S1024x1024) (k0_off1 d0) S32x512.size (k0_off1_inb d0)).PackedRows (EltTy.packing .bf16)
  k0_off5_inb : ∀ d0 : Dev nD, ∀ a, (k0_off5 d0) a + S32x512.size a ≤ S1024x1024.size a
  k0_off5_wordsbf16 : ∀ d0 : Dev nD, (Rect.unit (s := S1024x1024) (k0_off5 d0) S32x512.size (k0_off5_inb d0)).WholeWords (EltTy.packing .bf16)
  k0_dev94_lt : ∀ d0 : Dev nD, (k0_dev94 d0) < nD
  k0_dev95_lt : ∀ d0 : Dev nD, (k0_dev95 d0) < nD
  k0_dev96_lt : ∀ d0 : Dev nD, (k0_dev96 d0) < nD
  k0_dev97_lt : ∀ d0 : Dev nD, (k0_dev97 d0) < nD
  k0_dev98_lt : ∀ d0 : Dev nD, (k0_dev98 d0) < nD
  k0_dev99_lt : ∀ d0 : Dev nD, (k0_dev99 d0) < nD
  k0_dev100_lt : ∀ d0 : Dev nD, (k0_dev100 d0) < nD
  k0_dev101_lt : ∀ d0 : Dev nD, (k0_dev101 d0) < nD
  k0_dev102_lt : ∀ d0 : Dev nD, (k0_dev102 d0) < nD
  k0_dev103_lt : ∀ d0 : Dev nD, (k0_dev103 d0) < nD
  k0_dev104_lt : ∀ d0 : Dev nD, (k0_dev104 d0) < nD
  k0_dev105_lt : ∀ d0 : Dev nD, (k0_dev105 d0) < nD
  k0_dev106_lt : ∀ d0 : Dev nD, (k0_dev106 d0) < nD
  k0_dev107_lt : ∀ d0 : Dev nD, (k0_dev107 d0) < nD
  k0_dev108_lt : ∀ d0 : Dev nD, (k0_dev108 d0) < nD
  k0_dev109_lt : ∀ d0 : Dev nD, (k0_dev109 d0) < nD
  k0_dev110_lt : ∀ d0 : Dev nD, (k0_dev110 d0) < nD
  k0_dev111_lt : ∀ d0 : Dev nD, (k0_dev111 d0) < nD
  k0_dev112_lt : ∀ d0 : Dev nD, (k0_dev112 d0) < nD
  k0_dev113_lt : ∀ d0 : Dev nD, (k0_dev113 d0) < nD
  k0_dev114_lt : ∀ d0 : Dev nD, (k0_dev114 d0) < nD
  k0_dev115_lt : ∀ d0 : Dev nD, (k0_dev115 d0) < nD
  k0_dev116_lt : ∀ d0 : Dev nD, (k0_dev116 d0) < nD
  k0_dev117_lt : ∀ d0 : Dev nD, (k0_dev117 d0) < nD
  k0_dev118_lt : ∀ d0 : Dev nD, (k0_dev118 d0) < nD
  k0_dev119_lt : ∀ d0 : Dev nD, (k0_dev119 d0) < nD
  k0_dev120_lt : ∀ d0 : Dev nD, (k0_dev120 d0) < nD
  k0_dev121_lt : ∀ d0 : Dev nD, (k0_dev121 d0) < nD
  k0_dev122_lt : ∀ d0 : Dev nD, (k0_dev122 d0) < nD
  k0_dev123_lt : ∀ d0 : Dev nD, (k0_dev123 d0) < nD
  k0_dev124_lt : ∀ d0 : Dev nD, (k0_dev124 d0) < nD
  k0_off3_packedbf16 : ∀ d0 : Dev nD, (Rect.unit (s := S1024x1024) (k0_off3 d0) S32x512.size (k0_off3_inb d0)).PackedRows (EltTy.packing .bf16)
  k0_off6_inb : ∀ d0 : Dev nD, ∀ a, (k0_off6 d0) a + S32x512.size a ≤ S1024x1024.size a
  k0_off6_wordsbf16 : ∀ d0 : Dev nD, (Rect.unit (s := S1024x1024) (k0_off6 d0) S32x512.size (k0_off6_inb d0)).WholeWords (EltTy.packing .bf16)
  k0_dev125_lt : ∀ d0 : Dev nD, (k0_dev125 d0) < nD
  k0_dev126_lt : ∀ d0 : Dev nD, (k0_dev126 d0) < nD
  k0_dev127_lt : ∀ d0 : Dev nD, (k0_dev127 d0) < nD
  k0_dev128_lt : ∀ d0 : Dev nD, (k0_dev128 d0) < nD
  k0_dev129_lt : ∀ d0 : Dev nD, (k0_dev129 d0) < nD
  k0_dev130_lt : ∀ d0 : Dev nD, (k0_dev130 d0) < nD
  k0_dev131_lt : ∀ d0 : Dev nD, (k0_dev131 d0) < nD
  k0_dev132_lt : ∀ d0 : Dev nD, (k0_dev132 d0) < nD
  k0_dev133_lt : ∀ d0 : Dev nD, (k0_dev133 d0) < nD
  k0_dev134_lt : ∀ d0 : Dev nD, (k0_dev134 d0) < nD
  k0_dev135_lt : ∀ d0 : Dev nD, (k0_dev135 d0) < nD
  k0_dev136_lt : ∀ d0 : Dev nD, (k0_dev136 d0) < nD
  k0_dev137_lt : ∀ d0 : Dev nD, (k0_dev137 d0) < nD
  k0_dev138_lt : ∀ d0 : Dev nD, (k0_dev138 d0) < nD
  k0_dev139_lt : ∀ d0 : Dev nD, (k0_dev139 d0) < nD
  k0_dev140_lt : ∀ d0 : Dev nD, (k0_dev140 d0) < nD
  k0_dev141_lt : ∀ d0 : Dev nD, (k0_dev141 d0) < nD
  k0_dev142_lt : ∀ d0 : Dev nD, (k0_dev142 d0) < nD
  k0_dev143_lt : ∀ d0 : Dev nD, (k0_dev143 d0) < nD
  k0_dev144_lt : ∀ d0 : Dev nD, (k0_dev144 d0) < nD
  k0_dev145_lt : ∀ d0 : Dev nD, (k0_dev145 d0) < nD
  k0_dev146_lt : ∀ d0 : Dev nD, (k0_dev146 d0) < nD
  k0_dev147_lt : ∀ d0 : Dev nD, (k0_dev147 d0) < nD
  k0_dev148_lt : ∀ d0 : Dev nD, (k0_dev148 d0) < nD
  k0_dev149_lt : ∀ d0 : Dev nD, (k0_dev149 d0) < nD
  k0_dev150_lt : ∀ d0 : Dev nD, (k0_dev150 d0) < nD
  k0_dev151_lt : ∀ d0 : Dev nD, (k0_dev151 d0) < nD
  k0_dev152_lt : ∀ d0 : Dev nD, (k0_dev152 d0) < nD
  k0_dev153_lt : ∀ d0 : Dev nD, (k0_dev153 d0) < nD
  k0_dev154_lt : ∀ d0 : Dev nD, (k0_dev154 d0) < nD
  k0_dev155_lt : ∀ d0 : Dev nD, (k0_dev155 d0) < nD
  k0_off7_inb : ∀ d0 : Dev nD, ∀ (r : Fin 31), ∀ a, (k0_off7 d0 (BitVec.ofNat 32 (1 + r.val))) a + S32x512.size a ≤ S1024x1024.size a
  k0_off7_wordsbf16 : ∀ d0 : Dev nD, ∀ (r : Fin 31), (Rect.unit (s := S1024x1024) (k0_off7 d0 (BitVec.ofNat 32 (1 + r.val))) S32x512.size (k0_off7_inb d0 r)).WholeWords (EltTy.packing .bf16)
  k0_off8_inb : ∀ d0 : Dev nD, ∀ (r : Fin 31), ∀ a, (k0_off8 d0 (BitVec.ofNat 32 (1 + r.val))) a + S32x512.size a ≤ S1024x1024.size a
  k0_off8_wordsbf16 : ∀ d0 : Dev nD, ∀ (r : Fin 31), (Rect.unit (s := S1024x1024) (k0_off8 d0 (BitVec.ofNat 32 (1 + r.val))) S32x512.size (k0_off8_inb d0 r)).WholeWords (EltTy.packing .bf16)
  hstage0_0 : ∀ j, (stage0_0 j).IsWhole
  hstage0_1 : ∀ j, (stage0_1 j).IsWhole
  hstage0_2 : ∀ j, (stage0_2 j).IsWhole

variable [Facts₀]

abbrev cc0_scratch3 : DmaSems sig S2x32 := SemArray.consecutive 3 S2x32 hcc0_scratch3
abbrev cc0_scratch4 : DmaSems sig S2x32 := SemArray.consecutive 67 S2x32 hcc0_scratch4
abbrev cc0_scratch5 : DmaSems sig S2x32 := SemArray.consecutive 131 S2x32 hcc0_scratch5
abbrev cc0_scratch6 : DmaSems sig S2x32 := SemArray.consecutive 195 S2x32 hcc0_scratch6
def dot_S1024x32_S32x512_S1024x512_1_0_0_1_n_n : DotDims S1024x32 S32x512 S1024x512 where
  lhsContracting := [1]
  rhsContracting := [0]
  lhsNonContracting := [0]
  rhsNonContracting := [1]
  lhsBatch := []
  rhsBatch := []
  wf := dot_S1024x32_S32x512_S1024x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

class Facts : Prop extends Facts₀ where

variable [Facts]
-- ==== Proof.Protocol.lean ====
/-
  The all-reduce protocol of the K-split product, written down once for all 32 devices.

  Ring arithmetic: `fwd c k` is the device k places after c, `bwd c k` the device k places before it.
  Device c's k-th signal and its copies of offset k go to `fwd c k`; what lands on c at offset k comes from `bwd c k`.
  Cells of device c: the barrier cell (31 unit duties, duty k paid by `bwd c k`), and for each half h and offset
  k = 1..31 a send and a receive cell of the reduce phase and a send and a receive cell of the gather phase, one duty
  each, of the credit of one 32x512 chunk.
-/
import proofs.«900438_g7700000000000439_dist_gemm_ar_m1024_k1024_n1024_f32_gelu_v7x_i32_1_alg».proof.Proof.Gen.KernelIdeal
import proofs.«900438_g7700000000000439_dist_gemm_ar_m1024_k1024_n1024_f32_gelu_v7x_i32_1_alg».proof.Proof.Gen.KernelIdeal.Skeleton
import proofs.«900438_g7700000000000439_dist_gemm_ar_m1024_k1024_n1024_f32_gelu_v7x_i32_1_alg».proof.Proof.Gen.KernelIdeal.Launch
import proofs.«900438_g7700000000000439_dist_gemm_ar_m1024_k1024_n1024_f32_gelu_v7x_i32_1_alg».proof.Proof.Gen.KernelIdeal.Frame
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix4)

variable {F : FTy → Type} [FloatOps F]

/-! ## The resource algebra: the pipeline's own copy (duties `Unit`) beside the protocol's (duties `Fin 32`) -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring of 32 -/

def fwd (c : Dev nD) (k : Fin 32) : Dev nD := ⟨(c.val + k.val) % 32, Nat.mod_lt _ (by decide)⟩
def bwd (c : Dev nD) (k : Fin 32) : Dev nD := ⟨(c.val + 32 - k.val) % 32, Nat.mod_lt _ (by decide)⟩

theorem bwd_fwd : ∀ (c : Dev nD) (k : Fin 32), bwd (fwd c k) k = c := by decide +kernel
theorem fwd_bwd : ∀ (c : Dev nD) (k : Fin 32), fwd (bwd c k) k = c := by decide +kernel
theorem fwd_zero : ∀ c : Dev nD, fwd c 0 = c := by decide +kernel
theorem bwd_zero : ∀ c : Dev nD, bwd c 0 = c := by decide +kernel
/-- The offset at which `c` sees the device that sees `c` at offset `k`. -/
def opp (k : Fin 32) : Fin 32 := ⟨(32 - k.val) % 32, Nat.mod_lt _ (by decide)⟩
theorem fwd_opp : ∀ (c : Dev nD) (k : Fin 32), fwd c (opp k) = bwd c k := by decide +kernel
theorem bwd_opp : ∀ (c : Dev nD) (k : Fin 32), bwd c (opp k) = fwd c k := by decide +kernel
theorem fwd_inj : ∀ (c : Dev nD) (k k' : Fin 32), fwd c k = fwd c k' → k = k' := by decide +kernel
theorem fwd_ne_self : ∀ (c : Dev nD) (k : Fin 32), k ≠ 0 → fwd c k ≠ c := by decide +kernel

/-! ## Semaphores and cells -/

/-- The runtime's barrier semaphore of this collective (not scoped to the launch). -/
abbrev barS : Sem sig := (SemArray.scalar (sig.barrier 0 rfl) : Sems sig S_).sem

theorem inb_hk (h : Fin 2) (k : Fin 32) : ∀ a, (![h.val, k.val] : Fin 2 → Nat) a + S1x1.size a ≤ S2x32.size a := by
  revert h k; decide +kernel

/-- Entry (h, k) of one of the four 2x32 semaphore arrays, spelt as the kernel slices it. -/
def semAt (A : DmaSems sig S2x32) (h : Fin 2) (k : Fin 32) : DmaSem sig :=
  ((A.slice (Rect.unit (s := S2x32) ![h.val, k.val] S1x1.size (inb_hk h k))).squeeze S_ squeezes_S1x1_S_).sem

/-- The four arrays, numbered: 0 the sends and 1 the receives of the reduce phase, 2 the sends and 3 the receives of
    the gather phase. -/
abbrev Phase : Type := Fin 4
abbrev rsS : Phase := 0
abbrev rsR : Phase := 1
abbrev agS : Phase := 2
abbrev agR : Phase := 3

def arr : Phase → DmaSems sig S2x32
  | 0 => cc0_scratch3 | 1 => cc0_scratch4 | 2 => cc0_scratch5 | 3 => cc0_scratch6

/-- The arrays are consecutive: entry (h, k) of array p is semaphore 3 + 64 p + 32 h + k. -/
theorem semAt_val : ∀ (p : Phase) (h : Fin 2) (k : Fin 32),
    (semAt (arr p) h k).val = 3 + 64 * p.val + 32 * h.val + k.val := by
  decide +kernel

abbrev barCell (c : Dev nD) : GSem nD τ sig := ((c : Thread nD τ), .reg barS)
abbrev dmaCell (c : Dev nD) (p : Phase) (h : Fin 2) (k : Fin 32) : GSem nD τ sig := ((c : Thread nD τ), .dma (semAt (arr p) h k))

/-- Which array entry a semaphore is, if it is one of the 256. -/
def semIdx : SemLoc sig → Option (Phase × Fin 2 × Fin 32)
  | .dma q => if h : 3 ≤ q.val ∧ q.val < 259 then
      some (⟨(q.val - 3) / 64, by omega⟩, ⟨(q.val - 3) % 64 / 32, by omega⟩, ⟨(q.val - 3) % 32, by omega⟩) else none
  | _ => none

theorem semIdx_semAt : ∀ (p : Phase) (h : Fin 2) (k : Fin 32), semIdx (.dma (semAt (arr p) h k)) = some (p, h, k) := by
  decide +kernel

/-! ## The buffers and their chunks -/

/-- The partial product, the gather buffer, the receive slots. -/
abbrev accM : Memref sig .tc .vmem S1024x1024 .bf16 := Memref.whole cc0_scratch0
abbrev outM : Memref sig .tc .vmem S1024x1024 .bf16 := Memref.whole cc0_scratch1
abbrev bufM : Memref sig .tc .vmem S2x32x32x512 .bf16 := Memref.whole cc0_scratch2

theorem inb_chunk : ∀ (d : Dev nD) (h : Fin 2) (a : Fin 2), (![32 * d.val, 512 * h.val] : Fin 2 → Nat) a + S32x512.size a ≤ S1024x1024.size a := by
  decide +kernel
theorem inb_slot : ∀ (h : Fin 2) (s : Fin 32) (a : Fin 4), (![h.val, s.val, 0, 0] : Fin 4 → Nat) a + S1x1x32x512.size a ≤ S2x32x32x512.size a := by
  decide +kernel

/-- Rows 32d..32d+31, the 512 columns of half h, of a 1024x1024 buffer. -/
def chunk (M : Memref sig .tc .vmem S1024x1024 .bf16) (d : Dev nD) (h : Fin 2) : Memref sig .tc .vmem S32x512 .bf16 :=
  M.slice (Rect.unit (s := S1024x1024) ![32 * d.val, 512 * h.val] S32x512.size (inb_chunk d h)) (fun _ => rfl)

/-- Slot s of half h of the receive buffer, as a 32x512 block. -/
def slot (h : Fin 2) (s : Fin 32) : Memref sig .tc .vmem S32x512 .bf16 :=
  (bufM.slice (Rect.unit (s := S2x32x32x512) ![h.val, s.val, 0, 0] S1x1x32x512.size (inb_slot h s)) (fun _ => rfl)).squeeze S32x512 squeezes_S1x1x32x512_S32x512

/-- The credit of one 32x512 chunk. -/
abbrev Nc : ℕ := (slot 0 1).view.dmaCredit
theorem Nc_pos : 0 < Nc := View.dmaCredit_pos _ (by decide)

/-! ## Contents, as functions of the launch memory alone -/

variable (m : (ℓ : Loc nD τ sig) → Buf (Elt F) ℓ)

/-- Device d's staged slabs: 32 columns of X, 32 rows of W. -/
def xIn (d : Dev nD) : Vec F S1024x32 .f32 := Gen.iblk m d 0 t0_0
def wIn (d : Dev nD) : Vec F S32x1024 .f32 := Gen.iblk m d 1 t0_0

/-- Device d's partial product, half h. -/
def part (d : Dev nD) (h : Fin 2) : FVec F S1024x512 .bf16 :=
  if h = 0 then k0_pay3 (xIn m d) (wIn m d) else k0_pay5 (k0_pay1 (xIn m d)) (k0_pay2 (wIn m d))

/-- Row r of chunk c. -/
def rowOf (c : Dev nD) (r : Fin 32) : Fin 1024 := ⟨32 * c.val + r.val, by have := c.isLt; have := r.isLt; simp only [nD] at *; omega⟩

/-- Row chunk c of device d's partial product, half h: what d sends to c. -/
def sent (d c : Dev nD) (h : Fin 2) : Vec F S32x512 .bf16 := fun i => part m d h (ix2 (rowOf c (i 0)) (i 1))

/-- Slot s of device c, half h, once its chunk has landed: it came from `bwd c s` (slot 0 is c's own). -/
def slotVal (c : Dev nD) (h : Fin 2) (s : Fin 32) : Vec F S32x512 .bf16 := sent m (bwd c s) c h

/-- All 32 slots of half h. -/
def halfVal (c : Dev nD) (h : Fin 2) : Vec F S1x32x32x512 .bf16 := fun j => slotVal m c h (j 1) (ix2 (j 2) (j 3))

/-- The reduced chunk of device c, half h, after GELU. -/
def reduced (c : Dev nD) (h : Fin 2) : FVec F S32x512 .bf16 :=
  if h = 0 then k0_pay7 (halfVal m c 0) else k0_pay11 (k0_pay9 (halfVal m c 1)) (k0_pay10 (halfVal m c 1))

/-- Half h of the gather buffer once every chunk has landed: the same on every device. -/
def gathered (h : Fin 2) : Vec F S1024x512 .bf16 := fun i =>
  reduced m ⟨(i 0).val / 32, by have h0 : (i 0).val < 1024 := (i 0).isLt; simp only [nD]; omega⟩ h (ix2 ⟨(i 0).val % 32, Nat.mod_lt _ (by decide)⟩ (i 1))

/-- The result array: the two halves widened. -/
def result : Vec F S1024x1024 .f32 := fun i =>
  if hlt : (i 1).val < 512 then k0_pay12 (gathered m 0) (ix2 (i 0) ⟨(i 1).val, hlt⟩)
  else k0_pay13 (gathered m 1) (ix2 (i 0) ⟨(i 1).val - 512, by have h1 : (i 1).val < 1024 := (i 1).isLt; omega⟩)

/-! ## Shares: one source chunk is read by 31 gather copies at once -/

/-- The right half of the full share after n further halvings to the right. -/
def restShare : ℕ → PosShare TreeShare
  | 0 => fullShare.right
  | n + 1 => (restShare n).right
/-- The device keeps the left half of its own gather rows (offset 0) for its widening load; the right half is dealt to
    the 31 gather copies: offset k, 1 ≤ k ≤ 30, gets the left half of what is left after k − 1 of them, offset 31 the
    remainder. -/
def shr (k : Fin 32) : PosShare TreeShare :=
  if k = 0 then fullShare.left else if k = 31 then restShare 30 else (restShare (k.val - 1)).left

/-! ## The schedule -/

/-- What the signal of `bwd c d` (duty d of c's barrier cell) hands c: the slots and gather rows of that device which c's
    copies will fill, and that its receive cells stand at round 0. -/
def barPay (c : Dev nD) (d : Fin 32) : sProp 𝕄 :=
  iprop((∃ f, (slot 0 (opp d)).view.loc (bwd c d : Thread nD τ) ↦[(slot 0 (opp d)).view.set]{fullShare} f)
    ∗ (∃ f, (slot 1 (opp d)).view.loc (bwd c d : Thread nD τ) ↦[(slot 1 (opp d)).view.set]{fullShare} f)
    ∗ (∃ f, (chunk outM c 0).view.loc (bwd c d : Thread nD τ) ↦[(chunk outM c 0).view.set]{fullShare} f)
    ∗ (∃ f, (chunk outM c 1).view.loc (bwd c d : Thread nD τ) ↦[(chunk outM c 1).view.set]{fullShare} f)
    ∗ reached ER (dmaCell (bwd c d) rsR 0 (opp d)) 0 ∗ reached ER (dmaCell (bwd c d) rsR 1 (opp d)) 0
    ∗ reached ER (dmaCell (bwd c d) agR 0 (opp d)) 0 ∗ reached ER (dmaCell (bwd c d) agR 1 (opp d)) 0)

/-- What the one duty of a chunk cell hands its owner c. -/
def dmaPay (c : Dev nD) (p : Phase) (h : Fin 2) (k : Fin 32) : sProp 𝕄 :=
  match p with
  | 0 => (chunk accM (fwd c k) h).view.loc (c : Thread nD τ) ↦[(chunk accM (fwd c k) h).view.set]{fullShare} (chunk accM (fwd c k) h).view.rep (sent m c (fwd c k) h)
  | 1 => (slot h k).view.loc (c : Thread nD τ) ↦[(slot h k).view.set]{fullShare} (slot h k).view.rep (sent m (bwd c k) c h)
  | 2 => (chunk outM c h).view.loc (c : Thread nD τ) ↦[(chunk outM c h).view.set]{shr k} (chunk outM c h).view.rep (reduced m c h)
  | 3 => (chunk outM (bwd c k) h).view.loc (c : Thread nD τ) ↦[(chunk outM (bwd c k) h).view.set]{fullShare} (chunk outM (bwd c k) h).view.rep (reduced m (bwd c k) h)

/-- One round. A barrier cell has the 31 unit duties 1..31; chunk cell (p, h, k), k ≥ 1, the one duty 0 of a chunk's credit. -/
def sched : Rounds.Schedule (GSem nD τ sig) (Fin 32) 𝕄 where
  duties g r :=
    if r = 0 ∧ g.1.2 = .tc then
      (if g.2 = .reg barS then Finset.univ.erase 0
       else match semIdx g.2 with
        | some (_, _, k) => if k = 0 then ∅ else {0}
        | none => ∅)
    else ∅
  unitless _ := False
  amount g _ _ := if g.2 = .reg barS then 1 else Nc
  payload g _ d :=
    if g.2 = .reg barS then barPay g.1.1 d
    else match semIdx g.2 with
      | some (p, h, k) => dmaPay m g.1.1 p h k
      | none => iprop(emp)
  amount_pos g _ _ _ := by
    by_cases h : g.2 = .reg barS
    · rw [if_pos h]; exact Nat.one_pos
    · rw [if_neg h]; exact Nc_pos

/-! ## The schedule's tables -/

section Tables
variable (c : Dev nD)

theorem dma_ne_bar (q : DmaSem sig) : (SemLoc.dma q : SemLoc sig) ≠ .reg barS := fun h => by cases h

theorem duties_bar : (sched (F := F) m).duties (barCell c) 0 = Finset.univ.erase 0 := by
  dsimp only [sched]; rw [if_pos ⟨rfl, rfl⟩, if_pos rfl]
theorem duties_dma (p : Phase) (h : Fin 2) (k : Fin 32) (hk : k ≠ 0) : (sched (F := F) m).duties (dmaCell c p h k) 0 = {0} := by
  dsimp only [sched]; rw [if_pos ⟨rfl, rfl⟩, if_neg (dma_ne_bar _), semIdx_semAt]; exact if_neg hk
theorem duties_later (g : GSem nD τ sig) : ∀ r, 1 ≤ r → (sched (F := F) m).duties g r = ∅ :=
  fun r hr => by dsimp only [sched]; rw [if_neg fun h => by omega]
theorem amount_bar (d : Fin 32) : (sched (F := F) m).amount (barCell c) 0 d = 1 := by dsimp only [sched]; exact if_pos rfl
theorem amount_dma (p : Phase) (h : Fin 2) (k : Fin 32) (d : Fin 32) : (sched (F := F) m).amount (dmaCell c p h k) 0 d = Nc := by
  dsimp only [sched]; exact if_neg (dma_ne_bar _)
theorem expect_bar : (sched (F := F) m).expect (barCell c) 0 = 31 := by
  unfold Schedule.expect Schedule.amountOf
  rw [duties_bar, Finset.sum_congr rfl fun d _ => amount_bar m c d, Finset.sum_const, smul_eq_mul, mul_one]; decide
theorem expect_dma (p : Phase) (h : Fin 2) (k : Fin 32) (hk : k ≠ 0) : (sched (F := F) m).expect (dmaCell c p h k) 0 = Nc := by
  unfold Schedule.expect Schedule.amountOf; rw [duties_dma m c p h k hk, Finset.sum_singleton, amount_dma]
theorem payload_bar (d : Fin 32) : (sched (F := F) m).payload (barCell c) 0 d = barPay c d := by dsimp only [sched]; exact if_pos rfl
theorem payload_dma (p : Phase) (h : Fin 2) (k : Fin 32) (d : Fin 32) : (sched (F := F) m).payload (dmaCell c p h k) 0 d = dmaPay m c p h k := by
  dsimp only [sched]; rw [if_neg (dma_ne_bar _), semIdx_semAt]

end Tables

instance sched_payload_storable (g : GSem nD τ sig) (r : ℕ) (d : Fin 32) :
    BI.Storable (upEmb : UEmb _ 𝕄) ((sched (F := F) m).payload g r d) := by
  show BI.Storable upEmb (if g.2 = .reg barS then barPay g.1.1 d else match semIdx g.2 with
      | some (p, h, k) => dmaPay m g.1.1 p h k
      | none => iprop(emp))
  split
  · unfold barPay; infer_instance
  · split
    · next p h k _ => unfold dmaPay; split <;> infer_instance
    · infer_instance

/-! ## What a device owes at launch, in the order it pays -/

/-- The offsets 1..31, in the order the kernel unrolls them. -/
def ks : List (Fin 32) := [1, 2, 3, 4, 5, 6, 7, 8, 9, 10, 11, 12, 13, 14, 15, 16, 17, 18, 19, 20, 21, 22, 23, 24, 25, 26, 27, 28, 29, 30, 31]

/-- Device c's payments to other devices' cells, in program order: its 31 signals, then per half its 31 reduce copies,
    then per half its 31 gather copies (each owes the DESTINATION's receive cell one chunk's credit). -/
def payList (c : Dev nD) : List (GSem nD τ sig × ℕ) :=
  ks.map (fun k => (barCell (fwd c k), 1))
  ++ ks.map (fun k => (dmaCell (fwd c k) rsR 0 k, Nc)) ++ ks.map (fun k => (dmaCell (fwd c k) rsR 1 k, Nc))
  ++ ks.map (fun k => (dmaCell (fwd c k) agR 0 k, Nc)) ++ ks.map (fun k => (dmaCell (fwd c k) agR 1 k, Nc))

/-- The tallies of a list of payments, the FIRST payment the LAST summand (so that each payment peels one). -/
def owedOf : List (GSem nD τ sig × ℕ) → CellTallies nD τ sig Unit
  | [] => 0
  | p :: l => owedOf l + tallyAt p.1 () p.2

theorem owedOf_cons (p : GSem nD τ sig × ℕ) (l : List (GSem nD τ sig × ℕ)) : owedOf (p :: l) = owedOf l + tallyAt p.1 () p.2 := rfl

def O₀ (c : Dev nD) : CellTallies nD τ sig Unit := owedOf (payList c)

/-! ## Levels: a wait sits below everything the waiter still owes -/

def L (g : GSem nD τ sig) : Finset Unit := if g.1.2 = .tc then {()} else ∅
/-- Staging and send cells 0; barrier cells 1; receive cells of the reduce phase 2; of the gather phase 3. -/
def lv (g : GSem nD τ sig) (_ : Unit) : ℕ :=
  if g.2 = .reg barS then 1 else match semIdx g.2 with
    | some (p, _, _) => if p = rsR then 2 else if p = agR then 3 else 0
    | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_dma (c : Dev nD) (p : Phase) (h : Fin 2) (k : Fin 32) :
    lv (dmaCell c p h k) () = if p = rsR then 2 else if p = agR then 3 else 0 := by
  unfold lv; rw [if_neg (dma_ne_bar _), semIdx_semAt]

end Cert.KernelIdeal.AllReduce

end
-- ==== Proof.Ghost.lean ====
/-
  The ghost state of one device of the all-reduce, bundled by the phase that consumes it, and the proof data of the
  launch: what the device holds when its body starts (Φ₀), what it hands back when the body ends (Φ₁), and what its
  three staging buffers hold after the body (the two input slabs unchanged, the result array).
-/
import proofs.«900438_g7700000000000439_dist_gemm_ar_m1024_k1024_n1024_f32_gelu_v7x_i32_1_alg».proof.Proof.Protocol

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

-- the names the cells' invariants are allocated at
variable (K : GSem nD τ sig → ℕ)

/-! ## The ghost state, by the phase that spends it -/

/-- For the k-th signal: the peer's barrier cell, the duty's token, and that c's own four receive cells which the
    signal's payload speaks of stand at round 0. -/
def sigRes (c : Dev nD) (k : Fin 32) : sProp 𝕄 :=
  iprop(cellInv ER (sched m) (K (barCell (fwd c k))) (barCell (fwd c k)) ∗ dutyTok ER (barCell (fwd c k)) 0 k ∗ reached ER (barCell (fwd c k)) 0
    ∗ reached ER (dmaCell c rsR 0 (opp k)) 0 ∗ reached ER (dmaCell c rsR 1 (opp k)) 0
    ∗ reached ER (dmaCell c agR 0 (opp k)) 0 ∗ reached ER (dmaCell c agR 1 (opp k)) 0)

/-- For the barrier wait: c's own barrier cell, its position, and the 31 units of credit. -/
def barRes (c : Dev nD) : sProp 𝕄 :=
  iprop(cellInv ER (sched m) (K (barCell c)) (barCell c) ∗ atPos ER (barCell c) 0 ∅ 0 ∗ cred (tallyAt (barCell c) () 31))

/-- For the copy of offset k, half h, of the reduce (ps = rsS, pr = rsR) or gather (agS, agR) phase: c's send cell with
    its departure duty and position, and the destination's receive cell with its arrival duty. -/
def copyRes (ps pr : Phase) (c : Dev nD) (h : Fin 2) (k : Fin 32) : sProp 𝕄 :=
  iprop(cellInv ER (sched m) (K (dmaCell c ps h k)) (dmaCell c ps h k) ∗ dutyTok ER (dmaCell c ps h k) 0 (0 : Fin 32) ∗ reached ER (dmaCell c ps h k) 0
    ∗ atPos ER (dmaCell c ps h k) 0 ∅ 0
    ∗ cellInv ER (sched m) (K (dmaCell (fwd c k) pr h k)) (dmaCell (fwd c k) pr h k) ∗ dutyTok ER (dmaCell (fwd c k) pr h k) 0 (0 : Fin 32)
    ∗ reached ER (dmaCell (fwd c k) pr h k) 0)

/-- For the wait on c's own receive cell (pr, h, k): the cell, c's position, the chunk's credit. -/
def recvRes (pr : Phase) (c : Dev nD) (h : Fin 2) (k : Fin 32) : sProp 𝕄 :=
  iprop(cellInv ER (sched m) (K (dmaCell c pr h k)) (dmaCell c pr h k) ∗ atPos ER (dmaCell c pr h k) 0 ∅ 0 ∗ cred (tallyAt (dmaCell c pr h k) () Nc))

/-- The eight array entries of offset 0, which the kernel never touches: their counters stay at zero in c's hand. -/
def idleSems (c : Dev nD) : sProp 𝕄 :=
  iprop(semVal (dmaCell c rsS 0 0) 0 ∗ semVal (dmaCell c rsS 1 0) 0 ∗ semVal (dmaCell c rsR 0 0) 0 ∗ semVal (dmaCell c rsR 1 0) 0
    ∗ semVal (dmaCell c agS 0 0) 0 ∗ semVal (dmaCell c agS 1 0) 0 ∗ semVal (dmaCell c agR 0 0) 0 ∗ semVal (dmaCell c agR 1 0) 0)

/-- Everything, in program order. -/
def ghost (c : Dev nD) : sProp 𝕄 :=
  iprop(bigSepL ks (sigRes m K c) ∗ barRes m K c
    ∗ bigSepL ks (copyRes m K rsS rsR c 0) ∗ bigSepL ks (copyRes m K rsS rsR c 1)
    ∗ bigSepL ks (recvRes m K rsR c 0) ∗ bigSepL ks (copyRes m K agS agR c 0)
    ∗ bigSepL ks (recvRes m K rsR c 1) ∗ bigSepL ks (copyRes m K agS agR c 1)
    ∗ bigSepL ks (recvRes m K agR c 0) ∗ bigSepL ks (recvRes m K agR c 1)
    ∗ idleSems c ∗ levAts L lv)

/-! ## The proof data -/

/-- What the body starts from: the ghost state at some names, and the three scratch buffers at anything. -/
def Φ₀ (c : Dev nD) : sProp 𝕄 :=
  iprop((∃ K, ghost m K c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The 248 chunk cells of device c that the kernel uses. -/
def usedSems (c : Dev nD) : sProp 𝕄 :=
  iprop(bigSepL ks (fun k => semVal (dmaCell c rsS 0 k) 0) ∗ bigSepL ks (fun k => semVal (dmaCell c rsS 1 k) 0)
    ∗ bigSepL ks (fun k => semVal (dmaCell c rsR 0 k) 0) ∗ bigSepL ks (fun k => semVal (dmaCell c rsR 1 k) 0)
    ∗ bigSepL ks (fun k => semVal (dmaCell c agS 0 k) 0) ∗ bigSepL ks (fun k => semVal (dmaCell c agS 1 k) 0)
    ∗ bigSepL ks (fun k => semVal (dmaCell c agR 0 k) 0) ∗ bigSepL ks (fun k => semVal (dmaCell c agR 1 k) 0))

/-- What the body hands back: the scratch buffers at anything, and its own 256 semaphores at zero, every used cell
    closed (the barrier cell is the runtime's: nothing to hand back). -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ usedSems c ∗ idleSems c)

/-- The launch's proof data for device c: the input slabs are staged and left as they are, the result window's staging
    buffer ends at the result array, which does not depend on c. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wIn m c
    | ⟨2, _⟩ => result m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.AllReduce

end
-- ==== Proof.LaunchCells.lean ====
import proofs.«900438_g7700000000000439_dist_gemm_ar_m1024_k1024_n1024_f32_gelu_v7x_i32_1_alg».proof.Proof.Ghost

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The protocol's cells, indexed -/

/-- A device's cells: its barrier cell, and entry (p, h, j + 1) of the four arrays. -/
abbrev CIx : Type := Unit ⊕ (Phase × Fin 2 × Fin 31)

abbrev csem : CIx → SemLoc sig
  | .inl _ => .reg barS
  | .inr x => .dma (semAt (arr x.1) x.2.1 x.2.2.succ)

abbrev kcell (ck : Dev nD × CIx) : GSem nD τ sig := ((ck.1 : Thread nD τ), csem ck.2)

theorem csem_injective : Function.Injective csem := by
  intro i i' h
  rcases i with u | ⟨p, hh, j⟩ <;> rcases i' with u' | ⟨p', hh', j'⟩
  · rfl
  · exact absurd h (fun h => by cases h)
  · exact absurd h (fun h => by cases h)
  · have h2 := congrArg semIdx h
    rw [semIdx_semAt, semIdx_semAt] at h2
    simp only [Option.some.injEq, Prod.mk.injEq, Fin.succ_inj] at h2
    obtain ⟨rfl, rfl, rfl⟩ := h2
    rfl

theorem kcell_injective : Function.Injective (kcell : Dev nD × CIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def protoCells : Finset (GSem nD τ sig) := Finset.univ.map ⟨kcell, kcell_injective⟩

/-- The duty tokens of a device's own cells: its barrier's 31, and one per array entry. -/
abbrev TIx : Type := Fin 31 ⊕ (Phase × Fin 2 × Fin 31)

abbrev tokOf (cj : Dev nD × TIx) : GSem nD τ sig × ℕ × Fin 32 := match cj.2 with
  | .inl j => (barCell cj.1, 0, j.succ)
  | .inr x => (dmaCell cj.1 x.1 x.2.1 x.2.2.succ, 0, 0)

theorem tokOf_injective : Function.Injective (tokOf : Dev nD × TIx → GSem nD τ sig × ℕ × Fin 32) := by
  rintro ⟨c, j⟩ ⟨c', j'⟩ h
  have h1 : c = c' := by
    have := congrArg (fun x : GSem nD τ sig × ℕ × Fin 32 => x.1.1.1) h
    rcases j with j | x <;> rcases j' with j' | x' <;> exact this
  subst h1
  rcases j with j | ⟨p, hh, j⟩ <;> rcases j' with j' | ⟨p', hh', j'⟩
  · have := congrArg (fun x : GSem nD τ sig × ℕ × Fin 32 => x.2.2) h
    rw [Fin.succ_inj.mp this]
  · exact absurd (congrArg (fun x : GSem nD τ sig × ℕ × Fin 32 => x.1.2) h) (fun h' => by cases h')
  · exact absurd (congrArg (fun x : GSem nD τ sig × ℕ × Fin 32 => x.1.2) h) (fun h' => by cases h')
  · have h2 : csem (.inr (p, hh, j)) = csem (.inr (p', hh', j')) := congrArg (fun x : GSem nD τ sig × ℕ × Fin 32 => x.1.2) h
    rw [Sum.inr.inj (csem_injective h2)]

def protoToks : Finset (GSem nD τ sig × ℕ × Fin 32) := Finset.univ.map ⟨tokOf, tokOf_injective⟩

/-- The launch element: the pipeline's copy beside the protocol's. -/
def u₀ : UU :=
  (initOf (Pipeline.cells cfgs cellOf_inj) (Pipeline.launchToks cfgs cellOf_inj), initOf protoCells protoToks)

/-! ## The kernel's own semaphores: the 256 array entries -/

abbrev osem : Phase × Fin 2 × Fin 32 → SemLoc sig := fun x => .dma (semAt (arr x.1) x.2.1 x.2.2)

theorem osem_injective : Function.Injective osem := by
  rintro ⟨p, hh, k⟩ ⟨p', hh', k'⟩ h
  have h2 := congrArg semIdx h
  rw [semIdx_semAt, semIdx_semAt] at h2
  exact Option.some.inj h2

theorem ownSemFacts : Pipeline.OwnSemFacts cfg0.spec osem :=
  ⟨by decide +kernel, osem_injective, by decide +kernel⟩

/-! ## Index bookkeeping -/

section Index
variable {M : Type _} [URA M]

/-- The offsets 1..31 as successors. -/
theorem bigSep_succ (Φ : Fin 32 → sProp M) : bigSep Finset.univ (fun j : Fin 31 => Φ j.succ) = bigSepL ks Φ :=
  (bigSep_univ_eq_bigSepL [0, 1, 2, 3, 4, 5, 6, 7, 8, 9, 10, 11, 12, 13, 14, 15, 16, 17, 18, 19, 20, 21, 22, 23, 24, 25, 26, 27, 28, 29, 30]
    (by decide) (by decide) _).trans rfl

theorem bigSep_fin32 (Φ : Fin 32 → sProp M) : bigSep Finset.univ Φ = iprop(Φ 0 ∗ bigSepL ks Φ) := by
  rw [bigSep_univ_split 0, bigSep_eq_bigSepL_of_eq ks (by decide) (by decide)]; rfl

theorem bigSep_ph (Φ : Phase → sProp M) : bigSep Finset.univ Φ = iprop(Φ 0 ∗ Φ 1 ∗ Φ 2 ∗ Φ 3) :=
  bigSep_univ_eq_bigSepL [0, 1, 2, 3] (by decide) (by decide) Φ
theorem bigSep_hf (Φ : Fin 2 → sProp M) : bigSep Finset.univ Φ = iprop(Φ 0 ∗ Φ 1) :=
  bigSep_univ_eq_bigSepL [0, 1] (by decide) (by decide) Φ

/-- A family over (array, half, offset), array by array and half by half. -/
theorem bigSep_phj {J : Type} [Fintype J] (Φ : Phase × Fin 2 × J → sProp M) : bigSep Finset.univ Φ =
    iprop(((bigSep Finset.univ fun j => Φ (0, 0, j)) ∗ (bigSep Finset.univ fun j => Φ (0, 1, j)))
      ∗ ((bigSep Finset.univ fun j => Φ (1, 0, j)) ∗ (bigSep Finset.univ fun j => Φ (1, 1, j)))
      ∗ ((bigSep Finset.univ fun j => Φ (2, 0, j)) ∗ (bigSep Finset.univ fun j => Φ (2, 1, j)))
      ∗ ((bigSep Finset.univ fun j => Φ (3, 0, j)) ∗ (bigSep Finset.univ fun j => Φ (3, 1, j)))) := by
  rw [bigSep_univ_prod, bigSep_ph]
  simp only [bigSep_univ_prod, bigSep_hf]

theorem bigSep_CIx (Φ : CIx → sProp M) : bigSep Finset.univ Φ =
    iprop(Φ (.inl ()) ∗ bigSep Finset.univ fun x : Phase × Fin 2 × Fin 31 => Φ (.inr x)) := by
  rw [bigSep_univ_sum, bigSep_univ_of_subsingleton ()]; rfl

end Index

/-! ## What the launch element deals each device -/

section Deal
variable (c : Dev nD)

/-- Device c's own duty tokens, as minted. -/
def ownToks : sProp 𝕄 :=
  bigSep Finset.univ fun t : TIx => dutyTok ER (tokOf (c, t)).1 (tokOf (c, t)).2.1 (tokOf (c, t)).2.2

/-- What the launch element deals device c (the launch theorem's G). -/
def G : sProp 𝕄 :=
  iprop((bigSep Finset.univ fun i : CIx => roundState ER (sched m) (kcell (c, i)) 0)
    ∗ (bigSep Finset.univ fun i : CIx => atPos ER (kcell (c, i)) 0 ∅ 0)
    ∗ (bigSep Finset.univ fun i : CIx => reached ER (kcell (c, i)) 0) ∗ ownToks c)

end Deal

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun i : CIx => Φ (kcell (c, i)) := by
    unfold protoCells; rw [bigSep_map, bigSep_univ_prod]; rfl
  have hT : bigSep protoToks (fun x => (dutyTok ER x.1 x.2.1 x.2.2 : sProp 𝕄)) = bigSep Finset.univ fun c : Dev nD => ownToks c := by
    unfold protoToks; rw [bigSep_map, bigSep_univ_prod]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores at launch -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own 256 semaphores are the 248 it uses and the eight entries of offset 0, -/
theorem ownSems0_split (c : Dev nD) : (Pipeline.ownSems0 (Ix := Unit) (Name := ℕ) (U := UU) (Lvl := ℕ) (Val := Elt F) (τ := τ) osem c : sProp 𝕄)
    ⊢ iprop(usedSems c ∗ idleSems c) := by
  unfold Pipeline.ownSems0 usedSems idleSems
  rw [bigSep_phj]
  simp only [bigSep_fin32]
  iintro ⟨⟨⟨A0, A⟩, ⟨B0, B⟩⟩, ⟨⟨C0, C⟩, ⟨D0, D⟩⟩, ⟨⟨E0, E⟩, ⟨F0, F'⟩⟩, ⟨G0, G'⟩, ⟨H0, H⟩⟩
  iframe

omit [FloatOps F] in
/-- and back. -/
theorem ownSems0_join (c : Dev nD) : iprop(usedSems c ∗ idleSems c)
    ⊢ (Pipeline.ownSems0 (Ix := Unit) (Name := ℕ) (U := UU) (Lvl := ℕ) (Val := Elt F) (τ := τ) osem c : sProp 𝕄) := by
  unfold Pipeline.ownSems0 usedSems idleSems
  rw [bigSep_phj]
  simp only [bigSep_fin32]
  iintro ⟨⟨A, B, C, D, E, F', G', H⟩, A0, B0, C0, D0, E0, F0, G0, H0⟩
  iframe

end Cert.KernelIdeal.AllReduce

end
-- ==== Proof.LaunchFund.lean ====
import proofs.«900438_g7700000000000439_dist_gemm_ar_m1024_k1024_n1024_f32_gelu_v7x_i32_1_alg».proof.Proof.LaunchCells

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Each device's share, offset by offset -/

/-- The ring turned by k places. -/
def turn (k : Fin 32) : Dev nD ≃ Dev nD := ⟨fun c => fwd c k, fun c => bwd c k, fun c => bwd_fwd c k, fun c => fwd_bwd c k⟩

theorem opp_succ_ne_zero : ∀ j : Fin 31, opp j.succ ≠ 0 := by decide

section Shares
variable (c : Dev nD) (j : Fin 31)

/-- What stays with device c at offset j + 1: its position on its eight cells of that offset, and the departure tokens of
    its four send cells. -/
def stay : sProp 𝕄 :=
  iprop(((atPos ER (dmaCell c 0 0 j.succ) 0 ∅ 0 ∗ atPos ER (dmaCell c 0 1 j.succ) 0 ∅ 0)
      ∗ (atPos ER (dmaCell c 1 0 j.succ) 0 ∅ 0 ∗ atPos ER (dmaCell c 1 1 j.succ) 0 ∅ 0)
      ∗ (atPos ER (dmaCell c 2 0 j.succ) 0 ∅ 0 ∗ atPos ER (dmaCell c 2 1 j.succ) 0 ∅ 0)
      ∗ (atPos ER (dmaCell c 3 0 j.succ) 0 ∅ 0 ∗ atPos ER (dmaCell c 3 1 j.succ) 0 ∅ 0))
    ∗ (dutyTok ER (dmaCell c 0 0 j.succ) 0 (0 : Fin 32) ∗ dutyTok ER (dmaCell c 0 1 j.succ) 0 (0 : Fin 32))
    ∗ (dutyTok ER (dmaCell c 2 0 j.succ) 0 (0 : Fin 32) ∗ dutyTok ER (dmaCell c 2 1 j.succ) 0 (0 : Fin 32)))

/-- What goes to the device j + 1 places back, which pays these duties: the barrier token of that offset, the arrival
    tokens of the four receive cells. -/
def go : sProp 𝕄 :=
  iprop(dutyTok ER (barCell c) 0 j.succ
    ∗ (dutyTok ER (dmaCell c 1 0 j.succ) 0 (0 : Fin 32) ∗ dutyTok ER (dmaCell c 1 1 j.succ) 0 (0 : Fin 32))
    ∗ (dutyTok ER (dmaCell c 3 0 j.succ) 0 (0 : Fin 32) ∗ dutyTok ER (dmaCell c 3 1 j.succ) 0 (0 : Fin 32)))

/-- What device c pays with and waits on at offset j + 1, once the tokens have gone round. -/
def lin : sProp 𝕄 := iprop(stay c j ∗ go (fwd c j.succ) j)

end Shares

omit [FloatOps F] in
theorem bigSep_TIx (Φ : TIx → sProp 𝕄) : bigSep Finset.univ Φ
    = iprop((bigSep Finset.univ fun j : Fin 31 => Φ (.inl j)) ∗ bigSep Finset.univ fun x : Phase × Fin 2 × Fin 31 => Φ (.inr x)) := by
  rw [bigSep_univ_sum]; rfl

omit [FloatOps F] in
theorem deal_lin (c : Dev nD) : iprop((bigSep Finset.univ fun i : CIx => atPos ER (kcell (c, i)) 0 ∅ 0) ∗ ownToks c)
    ⊢ (iprop(atPos ER (barCell c) 0 ∅ 0 ∗ (bigSep Finset.univ fun j => stay c j) ∗ (bigSep Finset.univ fun j => go c j)) : sProp 𝕄) := by
  unfold ownToks
  rw [bigSep_CIx, bigSep_phj, bigSep_TIx, bigSep_phj]
  unfold stay go
  simp only [bigSep_sep']
  iintro ⟨⟨Hb, ⟨P00, P01⟩, ⟨P10, P11⟩, ⟨P20, P21⟩, P30, P31⟩, Tb, ⟨T00, T01⟩, ⟨T10, T11⟩, ⟨T20, T21⟩, T30, T31⟩
  isplitl [Hb]
  · iexact Hb
  isplitl [P00 P01 P10 P11 P20 P21 P30 P31 T00 T01 T20 T21]
  · isplitl [P00 P01 P10 P11 P20 P21 P30 P31]
    · isplitl [P00 P01]
      · isplitl [P00]
        · iexact P00
        iexact P01
      isplitl [P10 P11]
      · isplitl [P10]
        · iexact P10
        iexact P11
      isplitl [P20 P21]
      · isplitl [P20]
        · iexact P20
        iexact P21
      isplitl [P30]
      · iexact P30
      iexact P31
    isplitl [T00 T01]
    · isplitl [T00]
      · iexact T00
      iexact T01
    isplitl [T20]
    · iexact T20
    iexact T21
  isplitl [Tb]
  · iexact Tb
  isplitl [T10 T11]
  · isplitl [T10]
    · iexact T10
    iexact T11
  isplitl [T30]
  · iexact T30
  iexact T31

omit [FloatOps F] in
theorem sems_cells (c : Dev nD) : iprop(usedSems c ∗ semVal (barCell c) 0) ⊢ (bigSep Finset.univ fun i : CIx => semVal (kcell (c, i)) 0 : sProp 𝕄) := by
  rw [bigSep_CIx, bigSep_phj]
  unfold usedSems
  simp only [← bigSep_succ]
  iintro ⟨⟨A, B, C, D, E, F', G', H⟩, Hb⟩
  isplitl [Hb]
  · iexact Hb
  isplitl [A B]
  · isplitl [A]
    · iexact A
    iexact B
  isplitl [C D]
  · isplitl [C]
    · iexact C
    iexact D
  isplitl [E F']
  · isplitl [E]
    · iexact E
    iexact F'
  isplitl [G']
  · iexact G'
  iexact H

/-- What the launch has dealt device c once its cells' invariants are allocated. -/
def dealt (c : Dev nD) : sProp 𝕄 :=
  iprop((bigSep Finset.univ fun i : CIx => iprop(∃ κ : ℕ, cellInv ER (sched m) κ (kcell (c, i))))
    ∗ (bigSep Finset.univ fun i : CIx => reached ER (kcell (c, i)) 0)
    ∗ atPos ER (barCell c) 0 ∅ 0 ∗ (bigSep Finset.univ fun j => stay c j) ∗ (bigSep Finset.univ fun j => go c j) ∗ idleSems c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> dealt m c := by
  unfold G
  rw [unscopedSems0_eq]
  iintro ⟨Hos, Hbar, Hst, Hat, Hr, Htok⟩
  ihave Hos' := (ownSems0_split (F := F) c) $$ Hos
  icases Hos' with ⟨Hused, Hidle⟩
  ihave Hv := (sems_cells (F := F) c) $$ [Hused Hbar]
  · isplitl [Hused] <;> iassumption
  imod (show iprop((bigSep Finset.univ fun i : CIx => semVal (kcell (c, i)) 0) ∗ bigSep Finset.univ fun i : CIx => roundState ER (sched m) (kcell (c, i)) 0)
      ⊢ (|={Set.univ}=> bigSep Finset.univ fun i : CIx => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  ihave Hl := (deal_lin (F := F) c) $$ [Hat Htok]
  · isplitl [Hat] <;> iassumption
  icases Hl with ⟨Hb, Hstay, Hgo⟩
  unfold dealt
  isplitl [Hinv]
  · iexact Hinv
  isplitl [Hr]
  · iexact Hr
  isplitl [Hb]
  · iexact Hb
  isplitl [Hstay]
  · iexact Hstay
  isplitl [Hgo]
  · iexact Hgo
  iexact Hidle

/-! ## The shared records, and each device's ghost state from them -/

variable (K : GSem nD τ sig → ℕ)

/-- Every cell's invariant at its name, and that round 0 of every cell is reached: persistent, shared by all devices. -/
def records : sProp 𝕄 :=
  iprop((bigSep Finset.univ fun ck : Dev nD × CIx => cellInv ER (sched m) (K (kcell ck)) (kcell ck))
    ∗ bigSep Finset.univ fun ck : Dev nD × CIx => reached ER (kcell ck) 0)

instance records_persistent : BI.Persistent (records m K) := by unfold records; infer_instance

theorem rec_inv (ck : Dev nD × CIx) : records m K ⊢ cellInv ER (sched m) (K (kcell ck)) (kcell ck) :=
  sep_elim_left.trans (bigSep_elim (Finset.mem_univ ck))
theorem rec_reached (ck : Dev nD × CIx) : records m K ⊢ reached ER (kcell ck) 0 :=
  sep_elim_right.trans (bigSep_elim (Finset.mem_univ ck))
theorem rec_inv_bar (c : Dev nD) : records m K ⊢ cellInv ER (sched m) (K (barCell c)) (barCell c) := rec_inv m K (c, .inl ())
theorem rec_reached_bar (c : Dev nD) : records m K ⊢ reached ER (barCell c) 0 := rec_reached m K (c, .inl ())
theorem rec_inv_dma (c : Dev nD) (p : Phase) (h : Fin 2) (k : Fin 32) (hk : k ≠ 0) :
    records m K ⊢ cellInv ER (sched m) (K (dmaCell c p h k)) (dmaCell c p h k) := by
  obtain ⟨j, rfl⟩ := Fin.exists_succ_eq.mpr hk
  exact rec_inv m K (c, .inr (p, h, j))
theorem rec_reached_dma (c : Dev nD) (p : Phase) (h : Fin 2) (k : Fin 32) (hk : k ≠ 0) :
    records m K ⊢ reached ER (dmaCell c p h k) 0 := by
  obtain ⟨j, rfl⟩ := Fin.exists_succ_eq.mpr hk
  exact rec_reached m K (c, .inr (p, h, j))

/-- A receive wait's resources without its credit, which the launch hands over separately. -/
def recvPos (pr : Phase) (c : Dev nD) (h : Fin 2) (k : Fin 32) : sProp 𝕄 :=
  iprop(cellInv ER (sched m) (K (dmaCell c pr h k)) (dmaCell c pr h k) ∗ atPos ER (dmaCell c pr h k) 0 ∅ 0)

/-- Device c's ghost state of offset j + 1. -/
def preJ (c : Dev nD) (j : Fin 31) : sProp 𝕄 :=
  iprop(sigRes m K c j.succ ∗ copyRes m K rsS rsR c 0 j.succ ∗ copyRes m K rsS rsR c 1 j.succ ∗ copyRes m K agS agR c 0 j.succ ∗ copyRes m K agS agR c 1 j.succ
    ∗ recvPos m K rsR c 0 j.succ ∗ recvPos m K rsR c 1 j.succ ∗ recvPos m K agR c 0 j.succ ∗ recvPos m K agR c 1 j.succ)

set_option maxRecDepth 4000 in
theorem preJ_intro (c : Dev nD) (j : Fin 31) : iprop(records m K ∗ lin c j) ⊢ preJ m K c j := by
  unfold lin stay go preJ sigRes copyRes recvPos
  iintro ⟨#Hrec, ⟨⟨⟨P00, P01⟩, ⟨P10, P11⟩, ⟨P20, P21⟩, P30, P31⟩, ⟨T00, T01⟩, T20, T21⟩, Tb, ⟨T10, T11⟩, T30, T31⟩
  isplitl [Tb]
  · isplitl []
    · iapply (rec_inv_bar m K (fwd c j.succ)); iexact Hrec
    isplitl [Tb]
    · iexact Tb
    isplitl []
    · iapply (rec_reached_bar m K (fwd c j.succ)); iexact Hrec
    isplitl []
    · iapply (rec_reached_dma m K c rsR 0 (opp j.succ) (opp_succ_ne_zero j)); iexact Hrec
    isplitl []
    · iapply (rec_reached_dma m K c rsR 1 (opp j.succ) (opp_succ_ne_zero j)); iexact Hrec
    isplitl []
    · iapply (rec_reached_dma m K c agR 0 (opp j.succ) (opp_succ_ne_zero j)); iexact Hrec
    iapply (rec_reached_dma m K c agR 1 (opp j.succ) (opp_succ_ne_zero j)); iexact Hrec
  isplitl [T00 P00 T10]
  · isplitl []
    · iapply (rec_inv_dma m K c rsS 0 j.succ (Fin.succ_ne_zero j)); iexact Hrec
    isplitl [T00]
    · iexact T00
    isplitl []
    · iapply (rec_reached_dma m K c rsS 0 j.succ (Fin.succ_ne_zero j)); iexact Hrec
    isplitl [P00]
    · iexact P00
    isplitl []
    · iapply (rec_inv_dma m K (fwd c j.succ) rsR 0 j.succ (Fin.succ_ne_zero j)); iexact Hrec
    isplitl [T10]
    · iexact T10
    iapply (rec_reached_dma m K (fwd c j.succ) rsR 0 j.succ (Fin.succ_ne_zero j)); iexact Hrec
  isplitl [T01 P01 T11]
  · isplitl []
    · iapply (rec_inv_dma m K c rsS 1 j.succ (Fin.succ_ne_zero j)); iexact Hrec
    isplitl [T01]
    · iexact T01
    isplitl []
    · iapply (rec_reached_dma m K c rsS 1 j.succ (Fin.succ_ne_zero j)); iexact Hrec
    isplitl [P01]
    · iexact P01
    isplitl []
    · iapply (rec_inv_dma m K (fwd c j.succ) rsR 1 j.succ (Fin.succ_ne_zero j)); iexact Hrec
    isplitl [T11]
    · iexact T11
    iapply (rec_reached_dma m K (fwd c j.succ) rsR 1 j.succ (Fin.succ_ne_zero j)); iexact Hrec
  isplitl [T20 P20 T30]
  · isplitl []
    · iapply (rec_inv_dma m K c agS 0 j.succ (Fin.succ_ne_zero j)); iexact Hrec
    isplitl [T20]
    · iexact T20
    isplitl []
    · iapply (rec_reached_dma m K c agS 0 j.succ (Fin.succ_ne_zero j)); iexact Hrec
    isplitl [P20]
    · iexact P20
    isplitl []
    · iapply (rec_inv_dma m K (fwd c j.succ) agR 0 j.succ (Fin.succ_ne_zero j)); iexact Hrec
    isplitl [T30]
    · iexact T30
    iapply (rec_reached_dma m K (fwd c j.succ) agR 0 j.succ (Fin.succ_ne_zero j)); iexact Hrec
  isplitl [T21 P21 T31]
  · isplitl []
    · iapply (rec_inv_dma m K c agS 1 j.succ (Fin.succ_ne_zero j)); iexact Hrec
    isplitl [T21]
    · iexact T21
    isplitl []
    · iapply (rec_reached_dma m K c agS 1 j.succ (Fin.succ_ne_zero j)); iexact Hrec
    isplitl [P21]
    · iexact P21
    isplitl []
    · iapply (rec_inv_dma m K (fwd c j.succ) agR 1 j.succ (Fin.succ_ne_zero j)); iexact Hrec
    isplitl [T31]
    · iexact T31
    iapply (rec_reached_dma m K (fwd c j.succ) agR 1 j.succ (Fin.succ_ne_zero j)); iexact Hrec
  isplitl [P10]
  · isplitl []
    · iapply (rec_inv_dma m K c rsR 0 j.succ (Fin.succ_ne_zero j)); iexact Hrec
    iexact P10
  isplitl [P11]
  · isplitl []
    · iapply (rec_inv_dma m K c rsR 1 j.succ (Fin.succ_ne_zero j)); iexact Hrec
    iexact P11
  isplitl [P30]
  · isplitl []
    · iapply (rec_inv_dma m K c agR 0 j.succ (Fin.succ_ne_zero j)); iexact Hrec
    iexact P30
  isplitl []
  · iapply (rec_inv_dma m K c agR 1 j.succ (Fin.succ_ne_zero j)); iexact Hrec
  iexact P31

/-- Device c's ghost state short of its launch credit and the level facts. -/
def pre (c : Dev nD) : sProp 𝕄 :=
  iprop((cellInv ER (sched m) (K (barCell c)) (barCell c) ∗ atPos ER (barCell c) 0 ∅ 0) ∗ idleSems c ∗ bigSep Finset.univ fun j => preJ m K c j)

/-- What the global step makes of the dealt resources (the launch theorem's G'). -/
def G' (c : Dev nD) : sProp 𝕄 := iprop(∃ K, pre m K c)

theorem pre_intro (c : Dev nD) :
    iprop(records m K ∗ (atPos ER (barCell c) 0 ∅ 0 ∗ idleSems c ∗ bigSep Finset.univ fun j => lin c j)) ⊢ G' m c := by
  iintro ⟨#Hrec, Hb, Hidle, Hlin⟩
  unfold G' pre
  iexists K
  isplitl [Hb]
  · isplitl []
    · iapply (rec_inv_bar m K c); iexact Hrec
    iexact Hb
  isplitl [Hidle]
  · iexact Hidle
  iapply (BI.bigSep_with_persistent (R := records m K) fun j _ => preJ_intro m K c j)
  isplitl []
  · iexact Hrec
  iexact Hlin

/-! ## The global step -/

omit [FloatOps F] in
/-- The tokens go round: what every device holds for the device j + 1 places on is what every device holds from the
    device j + 1 places back. -/
theorem around (Φ : Dev nD → Fin 31 → sProp 𝕄) :
    (bigSep Finset.univ fun c => bigSep Finset.univ fun j => Φ c j) = bigSep Finset.univ fun c => bigSep Finset.univ fun j => Φ (fwd c j.succ) j := by
  refine (bigSep_univ_comm Φ).trans (Eq.trans ?_ (bigSep_univ_comm fun c j => Φ (fwd c j.succ) j).symm)
  exact bigSep_congr fun j _ => bigSep_univ_equiv (turn j.succ) (fun c => Φ c j)

theorem choose_names : (bigSep Finset.univ fun ck : Dev nD × CIx => iprop(∃ κ : ℕ, cellInv ER (sched m) κ (kcell ck)) : sProp 𝕄)
    ⊢ iprop(∃ K : GSem nD τ sig → ℕ, bigSep Finset.univ fun ck : Dev nD × CIx => cellInv ER (sched m) (K (kcell ck)) (kcell ck)) := by
  have e (Ψ : GSem nD τ sig → sProp 𝕄) : bigSep protoCells Ψ = bigSep Finset.univ fun ck : Dev nD × CIx => Ψ (kcell ck) := by
    unfold protoCells; rw [bigSep_map]; rfl
  rw [← e (fun g => iprop(∃ κ : ℕ, cellInv ER (sched m) κ g))]
  refine (BI.bigSep_exists_pi protoCells (fun (g : GSem nD τ sig) (κ : ℕ) => (cellInv ER (sched m) κ g : sProp 𝕄))).trans ?_
  iintro ⟨%K, H⟩
  iexists K
  rw [← e (fun g => cellInv ER (sched m) (K g) g)]
  iexact H

theorem regroup : (bigSep Finset.univ fun c : Dev nD => dealt m c) ⊢ bigSep Finset.univ (G' m) := by
  unfold dealt
  rw [bigSep_sep', bigSep_sep', bigSep_sep', bigSep_sep', bigSep_sep',
    ← bigSep_univ_prod (fun ck : Dev nD × CIx => iprop(∃ κ : ℕ, cellInv ER (sched m) κ (kcell ck))),
    ← bigSep_univ_prod (fun ck : Dev nD × CIx => (reached ER (kcell ck) 0 : sProp 𝕄))]
  iintro ⟨HI, #HR, Hb, Hstay, Hgo, Hidle⟩
  ihave HK := (choose_names m) $$ HI
  icases HK with ⟨%K, #HI⟩
  ihave Hgo' := (Entails.of_eq (around (F := F) (fun c j => go c j))) $$ Hgo
  iapply (BI.bigSep_with_persistent (R := records m K) fun c _ => pre_intro m K c)
  isplitl []
  · unfold records
    isplitl []
    · iexact HI
    iexact HR
  · simp only [lin, bigSep_sep']
    isplitl [Hb]
    · iexact Hb
    isplitl [Hidle]
    · iexact Hidle
    isplitl [Hstay]
    · iexact Hstay
    iexact Hgo'

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.AllReduce

end
-- ==== Proof.LaunchCredit.lean ====
import proofs.«900438_g7700000000000439_dist_gemm_ar_m1024_k1024_n1024_f32_gelu_v7x_i32_1_alg».proof.Proof.LaunchCells

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What the devices owe, summed offset by offset -/

omit [FloatOps F] in
theorem ks_nodup : ks.Nodup := by decide

omit [FloatOps F] in
theorem owedOf_eq_sum (l : List (GSem nD τ sig × ℕ)) : owedOf l = (l.map fun p => (tallyAt p.1 () p.2 : CellTallies nD τ sig Unit)).sum := by
  induction l with
  | nil => rfl
  | cons p l ih => rw [owedOf_cons, ih, List.map_cons, List.sum_cons, add_comm]

/-- What device d owes at offset k: a signal to the barrier cell of the device k places on, and one chunk's credit to each
    of that device's four receive cells of offset k. -/
def dueAt (k : Fin 32) (d : Dev nD) : CellTallies nD τ sig Unit :=
  tallyAt (barCell (fwd d k)) () 1 + (tallyAt (dmaCell (fwd d k) rsR 0 k) () Nc + (tallyAt (dmaCell (fwd d k) rsR 1 k) () Nc
    + (tallyAt (dmaCell (fwd d k) agR 0 k) () Nc + tallyAt (dmaCell (fwd d k) agR 1 k) () Nc)))

omit [FloatOps F] in
theorem O₀_eq_sum (d : Dev nD) : O₀ d = ∑ k ∈ ks.toFinset, dueAt k d := by
  unfold O₀ payList
  rw [owedOf_eq_sum]
  simp only [List.map_append, List.map_map, List.sum_append, ← List.sum_toFinset _ ks_nodup, Function.comp_def]
  unfold dueAt
  simp only [Finset.sum_add_distrib, add_assoc]

/-! ## The launch credit -/

omit [FloatOps F] in
/-- The credit of offset k: from the device k places back. -/
theorem creds_at (k : Fin 32) (c : Dev nD) : (Pipeline.launchCred (dueAt k) c : sProp 𝕄)
    ⊢ iprop(cred (tallyAt (barCell c) () 1) ∗ cred (tallyAt (dmaCell c rsR 0 k) () Nc) ∗ cred (tallyAt (dmaCell c rsR 1 k) () Nc)
        ∗ cred (tallyAt (dmaCell c agR 0 k) () Nc) ∗ cred (tallyAt (dmaCell c agR 1 k) () Nc)) := by
  have hat (sm : SemLoc sig) (n : ℕ) : (Pipeline.launchCred (fun d => tallyAt (((fwd d k : Dev nD) : Thread nD τ), sm) () n) c : sProp 𝕄)
      ⊢ cred (tallyAt ((c : Thread nD τ), sm) () n) :=
    Pipeline.launchCred_tallyAt sm (fun d => fwd d k) (fun d => bwd d k) (fun c => fwd_bwd c k) (fun d => bwd_fwd d k) () n c
  unfold dueAt
  rw [Pipeline.launchCred_add, Pipeline.launchCred_add, Pipeline.launchCred_add, Pipeline.launchCred_add]
  exact BIClass.sep_mono (hat _ _) (BIClass.sep_mono (hat _ _) (BIClass.sep_mono (hat _ _) (BIClass.sep_mono (hat _ _) (hat _ _))))

omit [FloatOps F] in
theorem cred_units (g : GSem nD τ sig) (s : Finset (Fin 32)) :
    (bigSep s fun _ => (cred (tallyAt g () 1) : sProp 𝕄)) ⊢ cred (tallyAt g () s.card) := by
  induction s using Finset.induction_on with
  | empty => rw [bigSep_empty, Finset.card_empty, tallyAt_zero, cred_zero]; exact Entails.of_eq rfl
  | insert a s ha ih =>
    rw [bigSep_insert ha, Finset.card_insert_of_notMem ha, Nat.add_comm, ← tallyAt_add]
    exact (sep_mono_right ih).trans (cred_add _ _).2

omit [FloatOps F] in
/-- Device c's launch credit: the 31 units of its barrier cell, and a chunk's credit on each receive cell. -/
theorem creds (c : Dev nD) : (Pipeline.launchCred O₀ c : sProp 𝕄)
    ⊢ iprop(cred (tallyAt (barCell c) () 31) ∗ bigSepL ks (fun k => cred (tallyAt (dmaCell c rsR 0 k) () Nc)) ∗ bigSepL ks (fun k => cred (tallyAt (dmaCell c rsR 1 k) () Nc))
        ∗ bigSepL ks (fun k => cred (tallyAt (dmaCell c agR 0 k) () Nc)) ∗ bigSepL ks (fun k => cred (tallyAt (dmaCell c agR 1 k) () Nc))) := by
  rw [show (O₀ : Dev nD → CellTallies nD τ sig Unit) = fun d => ∑ k ∈ ks.toFinset, dueAt k d from funext O₀_eq_sum, Pipeline.launchCred_sum]
  refine (bigSep_mono fun k _ => creds_at k c).trans ?_
  rw [bigSep_sep', bigSep_sep', bigSep_sep', bigSep_sep']
  simp only [← bigSep_eq_bigSepL ks ks_nodup]
  exact sep_mono_left ((cred_units (barCell c) ks.toFinset).trans (Entails.of_eq (by rw [show ks.toFinset.card = 31 from by decide])))

end Cert.KernelIdeal.AllReduce

end
-- ==== Proof.LaunchRun.lean ====
import proofs.«900438_g7700000000000439_dist_gemm_ar_m1024_k1024_n1024_f32_gelu_v7x_i32_1_alg».proof.Proof.LaunchFund
import proofs.«900438_g7700000000000439_dist_gemm_ar_m1024_k1024_n1024_f32_gelu_v7x_i32_1_alg».proof.Proof.LaunchCredit

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Waits: a wait sits below everything the waiter still owes -/

omit [FloatOps F] in
/-- A list of payments owes only at its payments' cells. -/
theorem owedOf_pos {l : List (GSem nD τ sig × ℕ)} {g : GSem nD τ sig} {u : Unit} (h : 0 < owedOf l g u) : ∃ p ∈ l, g = p.1 := by
  induction l with
  | nil => exact absurd h (Nat.lt_irrefl 0)
  | cons p l ih =>
    rw [owedOf_cons] at h
    rcases Pipeline.add_pos_cases h with h | h
    · obtain ⟨q, hq, rfl⟩ := ih h
      exact ⟨q, List.mem_cons_of_mem _ hq, rfl⟩
    · exact ⟨p, List.mem_cons_self, (Pipeline.tallyAt_pos h).1⟩

omit [FloatOps F] in
/-- The ledger lemma: a device may wait on its cell sm while it owes the payments l, each to a TensorCore's cell of a
    level above sm's. -/
theorem mayWait_owedOf (c : Dev nD) (sm : SemLoc sig) (l : List (GSem nD τ sig × ℕ))
    (hl : ∀ p ∈ l, p.1.1.2 = .tc ∧ lv ((c : Thread nD τ), sm) () < lv p.1 ()) :
    (levAts L lv : sProp 𝕄) ⊢ MayWait (c : Thread nD τ) sm () (owedOf l) :=
  Pipeline.mayWait_of_levAts (by rw [L_tc]; exact Finset.mem_singleton_self _) fun g i hg => by
    obtain ⟨p, hp, rfl⟩ := owedOf_pos hg
    exact ⟨by unfold L; rw [if_pos (hl p hp).1]; exact Finset.mem_singleton_self _, (hl p hp).2⟩

/-- A payment to a receive cell, of the reduce or of the gather phase. -/
def IsRecvPay (p : GSem nD τ sig × ℕ) : Prop := ∃ (c' : Dev nD) (h : Fin 2) (k : Fin 32), p.1 = dmaCell c' rsR h k ∨ p.1 = dmaCell c' agR h k
/-- A payment to a receive cell of the gather phase. -/
def IsGatherPay (p : GSem nD τ sig × ℕ) : Prop := ∃ (c' : Dev nD) (h : Fin 2) (k : Fin 32), p.1 = dmaCell c' agR h k

omit [FloatOps F] in
/-- The barrier wait: the signals are paid, the copies still owed. -/
theorem mayWait_bar (c : Dev nD) (l : List (GSem nD τ sig × ℕ)) (hl : ∀ p ∈ l, IsRecvPay p) :
    (levAts L lv : sProp 𝕄) ⊢ MayWait (c : Thread nD τ) (.reg barS) () (owedOf l) :=
  mayWait_owedOf c _ l fun p hp => by
    obtain ⟨c', h, k, hp' | hp'⟩ := hl p hp
    · rw [hp']; exact ⟨rfl, by rw [lv_bar, lv_dma]; decide⟩
    · rw [hp']; exact ⟨rfl, by rw [lv_bar, lv_dma]; decide⟩

omit [FloatOps F] in
/-- A wait on a receive cell of the reduce phase: only gather copies still owed. -/
theorem mayWait_rsR (c : Dev nD) (h : Fin 2) (k : Fin 32) (l : List (GSem nD τ sig × ℕ)) (hl : ∀ p ∈ l, IsGatherPay p) :
    (levAts L lv : sProp 𝕄) ⊢ MayWait (c : Thread nD τ) (.dma (semAt (arr rsR) h k)) () (owedOf l) :=
  mayWait_owedOf c _ l fun p hp => by
    obtain ⟨c', h', k', hp'⟩ := hl p hp
    rw [hp']; exact ⟨rfl, by rw [lv_dma, lv_dma]; decide⟩

omit [FloatOps F] in
/-- A wait on a cell of level 0 (a staging cell, a send cell): any payment to a barrier or a receive cell may be owed. -/
theorem mayWait_low (c : Dev nD) (sm : SemLoc sig) (hsm : lv ((c : Thread nD τ), sm) () = 0) (l : List (GSem nD τ sig × ℕ))
    (hl : ∀ p ∈ l, p.1.1.2 = .tc ∧ 1 ≤ lv p.1 ()) :
    (levAts L lv : sProp 𝕄) ⊢ MayWait (c : Thread nD τ) sm () (owedOf l) :=
  mayWait_owedOf c sm l fun p hp => ⟨(hl p hp).1, by rw [hsm]; exact (hl p hp).2⟩

omit [FloatOps F] in
theorem payList_levels (c : Dev nD) : ∀ p ∈ payList c, p.1.1.2 = .tc ∧ 1 ≤ lv p.1 () := by
  intro p hp
  simp only [payList, List.mem_append, List.mem_map] at hp
  rcases hp with (((⟨k, -, rfl⟩ | ⟨k, -, rfl⟩) | ⟨k, -, rfl⟩) | ⟨k, -, rfl⟩) | ⟨k, -, rfl⟩
  · exact ⟨rfl, by rw [lv_bar]⟩
  · exact ⟨rfl, by rw [lv_dma]; decide⟩
  · exact ⟨rfl, by rw [lv_dma]; decide⟩
  · exact ⟨rfl, by rw [lv_dma]; decide⟩
  · exact ⟨rfl, by rw [lv_dma]; decide⟩

omit [FloatOps F] in
theorem lv_stage (c : Dev nD) (w : Fin cfg0.W) (s : Fin (cfg0.win w).nbuf) : lv ((c : Thread nD τ), .dma ((cfg0.win w).sem s)) () = 0 := by
  fin_cases w <;> fin_cases s <;> first | rfl | decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (lv_stage c w s) (payList c) (payList_levels c)
    · show _ ⊢ MayWait _ _ () 0
      rw [MayWait_zero]; iintro -; iempintro

/-! ## The theorem's side conditions -/

theorem share_eq (c : Dev nD) (w : Fin cfg0.W) : (dats m ρ 0 c).share w = fullShare := by unfold Dat.share; split <;> rfl

theorem recv_join1 (K : GSem nD τ sig → ℕ) (pr : Phase) (c : Dev nD) (h : Fin 2) (k : Fin 32) :
    iprop(recvPos m K pr c h k ∗ cred (tallyAt (dmaCell c pr h k) () Nc)) ⊢ recvRes m K pr c h k := by
  unfold recvPos recvRes
  iintro ⟨⟨HI, HP⟩, HC⟩
  isplitl [HI]
  · iexact HI
  isplitl [HP]
  · iexact HP
  iexact HC

/-- A receive wait's resources: the cell and position dealt at launch, and the launch credit. -/
theorem recv_join (K : GSem nD τ sig → ℕ) (pr : Phase) (c : Dev nD) (h : Fin 2) :
    iprop((bigSep Finset.univ fun j : Fin 31 => recvPos m K pr c h j.succ) ∗ bigSepL ks (fun k => cred (tallyAt (dmaCell c pr h k) () Nc)))
      ⊢ bigSepL ks (recvRes m K pr c h) := by
  rw [← bigSep_succ, ← bigSep_succ, ← bigSep_sep']
  exact bigSep_mono fun j _ => recv_join1 m K pr c h j.succ

set_option maxRecDepth 4000 in
/-- The ghost state in program order, from what the global step made, the launch credit and the level facts. -/
theorem ghost_intro (K : GSem nD τ sig → ℕ) (c : Dev nD) :
    iprop(pre m K c ∗ (cred (tallyAt (barCell c) () 31) ∗ bigSepL ks (fun k => cred (tallyAt (dmaCell c rsR 0 k) () Nc)) ∗ bigSepL ks (fun k => cred (tallyAt (dmaCell c rsR 1 k) () Nc))
        ∗ bigSepL ks (fun k => cred (tallyAt (dmaCell c agR 0 k) () Nc)) ∗ bigSepL ks (fun k => cred (tallyAt (dmaCell c agR 1 k) () Nc))) ∗ levAts L lv)
      ⊢ ghost m K c := by
  unfold pre preJ
  simp only [bigSep_sep']
  rw [bigSep_succ (sigRes m K c), bigSep_succ (copyRes m K rsS rsR c 0), bigSep_succ (copyRes m K rsS rsR c 1),
    bigSep_succ (copyRes m K agS agR c 0), bigSep_succ (copyRes m K agS agR c 1)]
  iintro ⟨⟨⟨Ib, Pb⟩, Hidle, Sg, C00, C01, C20, C21, R10, R11, R30, R31⟩, ⟨Cb, K10, K11, K30, K31⟩, Hlev⟩
  ihave Q10 := (recv_join m K rsR c 0) $$ [R10 K10]
  · isplitl [R10] <;> iassumption
  ihave Q11 := (recv_join m K rsR c 1) $$ [R11 K11]
  · isplitl [R11] <;> iassumption
  ihave Q30 := (recv_join m K agR c 0) $$ [R30 K30]
  · isplitl [R30] <;> iassumption
  ihave Q31 := (recv_join m K agR c 1) $$ [R31 K31]
  · isplitl [R31] <;> iassumption
  unfold ghost barRes
  isplitl [Sg]
  · iexact Sg
  isplitl [Ib Pb Cb]
  · isplitl [Ib]
    · iexact Ib
    isplitl [Pb]
    · iexact Pb
    iexact Cb
  isplitl [C00]
  · iexact C00
  isplitl [C01]
  · iexact C01
  isplitl [Q10]
  · iexact Q10
  isplitl [C20]
  · iexact C20
  isplitl [Q11]
  · iexact Q11
  isplitl [C21]
  · iexact C21
  isplitl [Q30]
  · iexact Q30
  isplitl [Q31]
  · iexact Q31
  isplitl [Hidle]
  · iexact Hidle
  iexact Hlev

/-- What device c routes into the pipeline's invariant: its ghost state at some names. -/
def start (c : Dev nD) : sProp 𝕄 := iprop(∃ K, ghost m K c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  unfold G'
  icases HG with ⟨%K, Hpre⟩
  imodintro
  unfold start
  isplitl
  · iexists K
    iapply (ghost_intro m K c)
    isplitl [Hpre]
    · iexact Hpre
    isplitl [Hc]
    · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start
  iintro ⟨Hs, -, Hr⟩
  isplitl [Hs]
  · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁
  iintro ⟨H0, H1, H2, Hu, Hi⟩
  isplitl []
  · iempintro
  isplitl [Hu Hi]
  · iapply (ownSems0_join (F := F) c)
    isplitl [Hu] <;> iassumption
  isplitl [H0]
  · iexact H0
  isplitl [H1]
  · iexact H1
  iexact H2

/-! ## The run -/

/-- The three windows' arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- At the compiled mesh of 32 devices, for any float values, from any memory with zero counters, given that each device's
    body meets its obligation: every weakly fair execution of @main terminates, and every final state has each
    device's three arrays at the contents the proof data name. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.AllReduce.run_main' depends on axioms: [propext, Classical.choice, Quot.sound] -/
#guard_msgs in #print axioms run_main

end Cert.KernelIdeal.AllReduce

end
-- ==== Proof.LaunchFrames.lean ====
import proofs.«900438_g7700000000000439_dist_gemm_ar_m1024_k1024_n1024_f32_gelu_v7x_i32_1_alg».proof.Proof.LaunchRun

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The three arrays after the run -/

/-- The left argument's array is never written back. -/
theorem finalA_x (c : Dev nD) : finalA m ρ c (0 : Fin 3) = m ((c : Thread nD τ).loc main_arg0) :=
  (dats (F := F) m ρ 0 c).arrAt_in (0 : Fin 3) rfl _

/-- Nor the right argument's. -/
theorem finalA_w (c : Dev nD) : finalA m ρ c (1 : Fin 3) = m ((c : Thread nD τ).loc main_arg1) :=
  (dats (F := F) m ρ 0 c).arrAt_in (1 : Fin 3) rfl _

/-- The result array after the run, read through its one block: what the body left at the one point. -/
theorem final_out (c : Dev nD) :
    ((cfg0.win (2 : Fin 3)).blk t0_0).view.read (Elt F) ((dats (F := F) m ρ 0 c).arrAt (2 : Fin 3) cfg0.N)
      = (dats (F := F) m ρ 0 c).flushed (2 : Fin 3) t0_0 := by
  rw [show cfg0.N = (t0_0 : Fin cfg0.N).val + 1 from rfl, (dats (F := F) m ρ 0 c).arrAt_succ (2 : Fin 3) t0_0]
  rw [show (cfg0.win (2 : Fin 3)).flush t0_0 = true from by decide, if_pos rfl]
  exact View.read_write_univ _ _

/-- The result array after the run is the result the protocol names, on every device. -/
theorem finalA_out (c : Dev nD) : finalA m ρ c (2 : Fin 3) = result m := by
  have ho := final_out (F := F) m ρ c
  have hz2 : (fun a => (win0_2.index t0_0) a * main_v1.ty.shape.size a) = fun _ => 0 := funext fun a => by fin_cases a <;> decide
  have hr2 := fun f => Memref.read_access_unit_zero (Elt F) main_v1 hz2 (fun a => by fin_cases a <;> decide) f
  rw [hr2] at ho
  unfold finalA
  rw [ho]
  rfl

/-! ## The run's post, read at the program's arrays -/

/-- Given each device's body obligation: every weakly fair execution of @main terminates, each device's result array
    ends at the result the protocol names — the same on every device — and its two arguments as launched. -/
theorem run_post (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = result m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c (2 : Fin 3)).trans (finalA_out m ρ c), (h c (0 : Fin 3)).trans (finalA_x m ρ c), (h c (1 : Fin 3)).trans (finalA_w m ρ c)⟩)
    (run_main m ρ hbody)

/-- The frame: the run with the value dropped. -/
theorem frame_run (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_post m ρ hbody)

/-- info: 'Cert.KernelIdeal.AllReduce.run_post' depends on axioms: [propext, Classical.choice, Quot.sound] -/
#guard_msgs in #print axioms run_post

/-- info: 'Cert.KernelIdeal.AllReduce.frame_run' depends on axioms: [propext, Classical.choice, Quot.sound] -/
#guard_msgs in #print axioms frame_run

end Cert.KernelIdeal.AllReduce

end
-- ==== Proof.Owed.lean ====
/-
  What a device still owes after its first n payments to other devices' cells, and the one-step equations between them.
-/
import proofs.«900438_g7700000000000439_dist_gemm_ar_m1024_k1024_n1024_f32_gelu_v7x_i32_1_alg».proof.Proof.Ghost

noncomputable section

namespace Cert.KernelIdeal.AllReduce

open Cert.KernelIdeal Cert.KernelIdeal.Gen
open Idealize.ShloMosaic Idealize.ShloMosaic.TcCoe

/-- What device c owes after its first n payments, in program order. -/
def owedAfter (c : Dev nD) (n : ℕ) : CellTallies nD τ sig Unit := owedOf ((payList c).drop n)

theorem owedAfter_zero (c : Dev nD) : owedAfter c 0 = O₀ c := rfl

theorem owedAfter_step (c : Dev nD) (n : ℕ) (p : GSem nD τ sig × ℕ) (l : List (GSem nD τ sig × ℕ))
    (h : (payList c).drop n = p :: l) : owedAfter c n = owedAfter c (n + 1) + tallyAt p.1 () p.2 := by
  unfold owedAfter
  rw [h, owedOf_cons, ← List.drop_drop, h]
  rfl

theorem owedAfter_end (c : Dev nD) : owedAfter c 155 = 0 := rfl

end Cert.KernelIdeal.AllReduce

end
-- ==== Proof.BodyShell.lean ====
import proofs.«900438_g7700000000000439_dist_gemm_ar_m1024_k1024_n1024_f32_gelu_v7x_i32_1_alg».proof.Proof.Owed
import proofs.«900438_g7700000000000439_dist_gemm_ar_m1024_k1024_n1024_f32_gelu_v7x_i32_1_alg».proof.Proof.Gen.KernelIdeal.Points

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation from the body's symbolic execution -/

/-- A staging buffer whole at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The statement of the body's symbolic execution on device c: from the ghost state at names K, what the device owes
    at launch, the two staged slabs, the result's staging buffer and the three scratch buffers at any contents, the
    body runs to Φ₁, nothing owed, the slabs as they were and the result's staging buffer at the result. -/
def SoundBody : Prop :=
  ∀ (K : GSem nD τ sig → ℕ) (c : Dev nD) (f2 : Buf (Elt F) ((c : Thread nD τ).loc cc0_stg2_0))
    (f3 : Buf (Elt F) ((c : Thread nD τ).loc cc0_scratch0)) (f4 : Buf (Elt F) ((c : Thread nD τ).loc cc0_scratch1))
    (f5 : Buf (Elt F) ((c : Thread nD τ).loc cc0_scratch2)) (W : Waits sig Unit) (Kt : PUnit → sProp 𝕄),
    iprop(ghost m K c ∗ owes (c : Thread nD τ) (owedAfter c 0) W
        ∗ ((Memref.whole cc0_stg0_0).view.loc (c : Thread nD τ) ↦{fullShare} xIn m c) ∗ ((Memref.whole cc0_stg1_0).view.loc (c : Thread nD τ) ↦{fullShare} wIn m c)
        ∗ ((Memref.whole cc0_stg2_0).view.loc (c : Thread nD τ) ↦{fullShare} f2)
        ∗ ((Memref.whole cc0_scratch0).view.loc (c : Thread nD τ) ↦{fullShare} f3) ∗ ((Memref.whole cc0_scratch1).view.loc (c : Thread nD τ) ↦{fullShare} f4)
        ∗ ((Memref.whole cc0_scratch2).view.loc (c : Thread nD τ) ↦{fullShare} f5)
        ∗ (∀ W', (Φ₁ c ∗ owes (c : Thread nD τ) 0 W' ∗ ((Memref.whole cc0_stg0_0).view.loc (c : Thread nD τ) ↦{fullShare} xIn m c)
              ∗ ((Memref.whole cc0_stg1_0).view.loc (c : Thread nD τ) ↦{fullShare} wIn m c)
              ∗ ((Memref.whole cc0_stg2_0).view.loc (c : Thread nD τ) ↦{fullShare} result m)) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6) Kt

/-- What the pipeline hands the body at the one point. -/
def bodyPre' (c : Dev nD) : sProp 𝕄 :=
  iprop(Φ₀ m c ∗ (dats m ρ 0 c).owesAt () (t0_0 : Fin cfg0.N).castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- What it takes back. -/
def bodyPost (c : Dev nD) : sProp 𝕄 :=
  iprop(Φ₁ c ∗ (dats m ρ 0 c).owesAt () (t0_0 : Fin cfg0.N).succ
    ∗ stg c cc0_stg0_0 (xIn m c) ∗ stg c cc0_stg1_0 (wIn m c) ∗ stg c cc0_stg2_0 (result m))

set_option maxRecDepth 200000 in
/-- The library's body obligation on device c, from the body's symbolic execution. -/
theorem body_obligation (hsound : SoundBody m) (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) (Memref.whole cc0_scratch2) (Memref.isWhole_whole _)
      cc0_scratch3 cc0_scratch4 cc0_scratch5 cc0_scratch6) (fun _ => bodyPost m ρ c)
  unfold bodyPre' Φ₀
  iintro ⟨⟨⟨%K, Hg⟩, ⟨%f3, H3⟩, ⟨%f4, H4⟩, ⟨%f5, H5⟩⟩, Ho, ⟨%d0, %g0, %hg0, Hx⟩, ⟨%d1, %g1, %hg1, Hw⟩, ⟨%d2, %g2, %hg2, Hr⟩⟩
  have hx : g0 = xIn m c := by rw [hg0]; unfold Dat.before; rw [if_pos (fetch0_0 t0_0)]; rfl
  have hw : g1 = wIn m c := by rw [hg1]; unfold Dat.before; rw [if_pos (fetch0_1 t0_0)]; rfl
  subst hx hw
  unfold Dat.owesAt Pipeline.owesWithin
  icases Ho with ⟨%W, %hW, HO⟩
  rw [show (dats m ρ 0 c).owed (t0_0 : Fin cfg0.N).castSucc = owedAfter c 0 from rfl]
  iapply (hsound K c g2 f3 f4 f5 W fun _ => bodyPost m ρ c)
  isplitl [Hg]
  · iexact Hg
  isplitl [HO]
  · iexact HO
  isplitl [Hx]
  · iexact Hx
  isplitl [Hw]
  · iexact Hw
  isplitl [Hr]
  · iexact Hr
  isplitl [H3]
  · iexact H3
  isplitl [H4]
  · iexact H4
  isplitl [H5]
  · iexact H5
  iintro %W' ⟨HΦ, HO', Hx, Hw, Hr⟩
  unfold bodyPost Dat.owesAt Pipeline.owesWithin
  rw [show (dats m ρ 0 c).owed (t0_0 : Fin cfg0.N).succ = 0 from rfl]
  isplitl [HΦ]
  · iexact HΦ
  isplitl [HO']
  · iexists W'
    isplitl []
    · ipureintro; exact fun _ _ => Or.inl trivial
    iexact HO'
  isplitl [Hx]
  · iexists _
    isplitl []
    · ipureintro; rfl
    iexact Hx
  isplitl [Hw]
  · iexists _
    isplitl []
    · ipureintro; rfl
    iexact Hw
  iexists _
  isplitl []
  · ipureintro; rfl
  iexact Hr

end Cert.KernelIdeal.AllReduce

end
-- ==== Proof.GeluSlabAlgebra.lean ====
/-
  The two rearrangements of arithmetic on the extended reals that separate a product computed
  as 32 partial products of 32 terms each (summed in a rotated order) and followed by a tanh-GELU
  whose cubic is associated from the left, from the one 1024-term product followed by the same
  GELU with the cubic associated from the right.  No program is mentioned here.

  * `gelu` is the tanh-GELU with its cubic as `a * ((y * y) * y)`; `geluLeft` has it as
    `((a * y) * y) * y`.  They are equal by associativity of the product on the extended reals
    (no finiteness is needed).  The four constants are the same 32-bit words on both sides and
    are never evaluated.
  * A double sum over 32 slabs of 32 terms is the single sum over 1024 terms, the term
    `q` sitting in slab `q / 32` at place `q % 32`.
  * Summing over the slots `s` of a family indexed by `(c + 32 - s) % 32` is summing over the
    whole family: the map is an involution of `Fin 32`.
-/
import Idealize.ShloMosaic.PureOps.Ideal
import Mathlib.Logic.Equiv.Fin.Basic
import Mathlib.Algebra.BigOperators.Fin

noncomputable section

open scoped BigOperators

namespace Cert.GemmGelu

open Idealize.ShloMosaic

/-! ## The tanh-GELU, in its two associations -/

/-- The cubic's two associations agree, under any outer function `T`. -/
theorem cubic_assoc (T : EReal → EReal) (h a c one y : EReal) :
    (h * y) * (one + T (c * (y + ((a * y) * y) * y)))
      = (h * y) * (one + T (c * (y + a * ((y * y) * y)))) := by
  rw [mul_assoc a y y, mul_assoc a (y * y) y]

/-- The tanh-GELU with the cubic associated from the right: `(h y) (1 + tanh (c (y + a ((y y) y))))`, the constants the
    words of `0.5`, `0.044715`, `0.797884583` and `1.0`. -/
def gelu (y : EReal) : EReal :=
  (Ideal.ofBits .f32 0x3F000000#32 * y)
    * (Ideal.ofBits .f32 0x3F800000#32
        + Ideal.tanh (Ideal.ofBits .f32 0x3F4C422A#32 * (y + Ideal.ofBits .f32 0x3D372713#32 * ((y * y) * y))))

/-- The same with the cubic associated from the left: `((a y) y) y`. -/
def geluLeft (y : EReal) : EReal :=
  (Ideal.ofBits .f32 0x3F000000#32 * y)
    * (Ideal.ofBits .f32 0x3F800000#32
        + Ideal.tanh (Ideal.ofBits .f32 0x3F4C422A#32 * (y + ((Ideal.ofBits .f32 0x3D372713#32 * y) * y) * y)))

theorem geluLeft_eq_gelu (y : EReal) : geluLeft y = gelu y :=
  cubic_assoc Ideal.tanh _ _ _ _ y

/-! ## 32 slabs of 32 terms are 1024 terms -/

/-- A double sum over 32 slabs of 32 is the sum over `Fin 1024`, term `q` in slab `q / 32` at place `q % 32`. -/
theorem sum_slabs {M : Type*} [AddCommMonoid M] (f : Fin 32 → Fin 32 → M) :
    (∑ d : Fin 32, ∑ k : Fin 32, f d k)
      = ∑ q : Fin 1024, f ⟨q.val / 32, by omega⟩ ⟨q.val % 32, by omega⟩ := by
  rw [← Fintype.sum_prod_type' (f := f)]
  exact (Equiv.sum_comp (finProdFinEquiv (m := 32) (n := 32)).symm fun p => f p.1 p.2).symm

/-! ## The rotated order of the slots -/

/-- Slot `s` of row chunk `c` holds what came from `(c + 32 - s) % 32`; as `s` runs over the 32 slots this runs over
    all 32 sources (the map is its own inverse), so the sum over the slots is the sum over the sources.  Stated for any
    `σ` whose values are given by that formula. -/
theorem sum_rotated {M : Type*} [AddCommMonoid M] (g : Fin 32 → M) (c : Fin 32) (σ : Fin 32 → Fin 32)
    (hσ : ∀ s : Fin 32, (σ s).val = (c.val + 32 - s.val) % 32) :
    (∑ s : Fin 32, g (σ s)) = ∑ d : Fin 32, g d := by
  have hinv : Function.Involutive σ := fun s => Fin.ext (by
    have h1 := hσ (σ s); have h2 := hσ s
    have := s.isLt; have := c.isLt
    omega)
  exact Equiv.sum_comp hinv.toPerm g

/-- The source of slot `s` of row chunk `c`. -/
def source (c s : Fin 32) : Fin 32 := ⟨(c.val + 32 - s.val) % 32, Nat.mod_lt _ (by decide)⟩

theorem source_val (c s : Fin 32) : (source c s).val = (c.val + 32 - s.val) % 32 := rfl

theorem sum_source {M : Type*} [AddCommMonoid M] (g : Fin 32 → M) (c : Fin 32) :
    (∑ s : Fin 32, g (source c s)) = ∑ d : Fin 32, g d :=
  sum_rotated g c (source c) (source_val c)

/-- Own chunk first: slot 0 holds the chunk's own. -/
theorem source_zero (c : Fin 32) : source c 0 = c := Fin.ext (by
  have := c.isLt
  show (c.val + 32 - 0) % 32 = c.val
  omega)

/-- info: 'Cert.GemmGelu.sum_source' depends on axioms: [propext, Classical.choice, Quot.sound] -/
#guard_msgs in #print axioms sum_source

/-- info: 'Cert.GemmGelu.sum_slabs' depends on axioms: [propext, Classical.choice, Quot.sound] -/
#guard_msgs in #print axioms sum_slabs

/-- info: 'Cert.GemmGelu.geluLeft_eq_gelu' depends on axioms: [propext, Classical.choice, Quot.sound] -/
#guard_msgs in #print axioms geluLeft_eq_gelu

end Cert.GemmGelu

end
-- ==== Proof.GemmGeluSpec.lean ====
/-
  The specification: the tanh-GELU of the product of two 1024 × 1024 arrays of extended reals, index by index, the
  product's element the one sum over the 1024 contraction places; and the same sum cut into 32 slabs of 32 places.
  No program is mentioned here.
-/
import proofs.«900438_g7700000000000439_dist_gemm_ar_m1024_k1024_n1024_f32_gelu_v7x_i32_1_alg».proof.Proof.GeluSlabAlgebra
import Idealize.ShloMosaic.Lib.ValueIdx

noncomputable section

open scoped BigOperators

namespace Cert.GemmGelu

open Idealize.ShloMosaic Idealize.ShloMosaic.ValueIdx

/-- Element `(i, j)` of the product of `X` and `W`: the sum over the 1024 contraction places. -/
def dot (X W : (⟨2, ![1024, 1024]⟩ : Shape).Idx → EReal) (i j : Fin 1024) : EReal :=
  ∑ k : Fin 1024, X (ix2 i k) * W (ix2 k j)

/-- THE SPECIFICATION: the GELU of the product, at every index. -/
def gemmGelu (X W : (⟨2, ![1024, 1024]⟩ : Shape).Idx → EReal) : (⟨2, ![1024, 1024]⟩ : Shape).Idx → EReal :=
  fun i => gelu (dot X W (i 0) (i 1))

theorem gemmGelu_ix2 (X W : (⟨2, ![1024, 1024]⟩ : Shape).Idx → EReal) (i j : Fin 1024) :
    gemmGelu X W (ix2 i j) = gelu (dot X W i j) := rfl

/-- Place `k` of slab `d` is contraction place `32 d + k`. -/
def place (d k : Fin 32) : Fin 1024 := ⟨32 * d.val + k.val, by have := d.isLt; have := k.isLt; omega⟩

theorem place_val (d k : Fin 32) : (place d k).val = 32 * d.val + k.val := rfl

/-- Column `j` of half `h` is column `512 h + j` of the array. -/
def col (h : Fin 2) (j : Fin 512) : Fin 1024 := ⟨512 * h.val + j.val, by have := h.isLt; have := j.isLt; omega⟩

theorem col_val (h : Fin 2) (j : Fin 512) : (col h j).val = 512 * h.val + j.val := rfl

/-- Every column is a column of its half. -/
theorem col_div_mod (j : Fin 1024) : col ⟨j.val / 512, by omega⟩ ⟨j.val % 512, by omega⟩ = j :=
  Fin.ext (by show 512 * (j.val / 512) + j.val % 512 = j.val; omega)

/-- The product's element as 32 partial sums of 32 terms: slab `d` holds the contraction places `32 d … 32 d + 31`. -/
theorem dot_slabs (X W : (⟨2, ![1024, 1024]⟩ : Shape).Idx → EReal) (i j : Fin 1024) :
    dot X W i j = ∑ d : Fin 32, ∑ k : Fin 32, X (ix2 i (place d k)) * W (ix2 (place d k) j) := by
  rw [sum_slabs fun d k => X (ix2 i (place d k)) * W (ix2 (place d k) j)]
  unfold dot
  refine Finset.sum_congr rfl fun q _ => ?_
  have hq : place ⟨q.val / 32, by omega⟩ ⟨q.val % 32, by omega⟩ = q := Fin.ext (by
    show 32 * (q.val / 32) + q.val % 32 = q.val
    omega)
  rw [hq]

/-- The same with the slabs taken in the rotated order of the slots of row chunk `c`. -/
theorem dot_slots (X W : (⟨2, ![1024, 1024]⟩ : Shape).Idx → EReal) (i j : Fin 1024) (c : Fin 32) :
    dot X W i j
      = ∑ s : Fin 32, ∑ k : Fin 32, X (ix2 i (place (source c s) k)) * W (ix2 (place (source c s) k) j) := by
  rw [dot_slabs, sum_source (fun d => ∑ k : Fin 32, X (ix2 i (place d k)) * W (ix2 (place d k) j)) c]

/-- info: 'Cert.GemmGelu.dot_slots' depends on axioms: [propext, Classical.choice, Quot.sound] -/
#guard_msgs in #print axioms dot_slots

end Cert.GemmGelu

end
-- ==== Proof.KernelProductAtIndex.lean ====
/-
  The kernel's product payloads read at an index, at the ideal values: the two format changes on the way into the
  matrix unit are the identity, and each half of the partial product is, at row `i` and column `j` of the half, the sum
  over the device's 32 contraction places of the left block at `(i, k)` times the right block at `(k, 512 h + j)`.
-/
import proofs.«900438_g7700000000000439_dist_gemm_ar_m1024_k1024_n1024_f32_gelu_v7x_i32_1_alg».proof.Proof.Gen.KernelIdeal.Skeleton
import proofs.«900438_g7700000000000439_dist_gemm_ar_m1024_k1024_n1024_f32_gelu_v7x_i32_1_alg».proof.Proof.GemmGeluSpec
import Idealize.ShloMosaic.Lib.Pipeline.Value
import Idealize.ShloMosaic.Lib.ValueIdx
import Idealize.ShloMosaic.PureOps.Ideal.Laws

noncomputable section

open scoped BigOperators

namespace Cert.GemmGelu

open Idealize.ShloMosaic Idealize.ShloMosaic.ValueIdx Cert.KernelIdeal Cert.KernelIdeal.Gen

/-! ## The format changes into the matrix unit -/

theorem pay1_eq (v : Vec Ideal S1024x32 .f32) : Gen.k0_pay1 (F := Ideal) v = v :=
  shapeCast_self v _

theorem pay2_eq (v : Vec Ideal S32x1024 .f32) : Gen.k0_pay2 (F := Ideal) v = v :=
  shapeCast_self v _

/-! ## The matrix unit's product of a 1024 × 32 block and a 32 × 512 block -/

/-- The dimension numbers of the kernel's two products. -/
abbrev prodDims : DotDims S1024x32 S32x512 S1024x512 := dot_S1024x32_S32x512_S1024x512_1_0_0_1_n_n

theorem prod_lhs0 (i : S1024x512.Idx) (q : prodDims.contr.Idx) : (prodDims.lhsIdx i q 0).val = (i 0).val := by
  unfold DotDims.lhsIdx
  rw [dif_neg (show ¬(0 : Fin S1024x32.rank) ∈ prodDims.lhsBatch by decide),
    dif_pos (show (0 : Fin S1024x32.rank) ∈ prodDims.lhsNonContracting by decide)]
  rfl
theorem prod_lhs1 (i : S1024x512.Idx) (q : prodDims.contr.Idx) :
    (prodDims.lhsIdx i q 1).val = (q ⟨0, by decide⟩).val :=
  prodDims.lhsIdx_val_of_single rfl i q
theorem prod_rhs0 (i : S1024x512.Idx) (q : prodDims.contr.Idx) :
    (prodDims.rhsIdx i q 0).val = (q ⟨0, by decide⟩).val :=
  prodDims.rhsIdx_val_of_single rfl i q
theorem prod_rhs1 (i : S1024x512.Idx) (q : prodDims.contr.Idx) : (prodDims.rhsIdx i q 1).val = (i 1).val := by
  unfold DotDims.rhsIdx
  rw [dif_neg (show ¬(1 : Fin S32x512.rank) ∈ prodDims.rhsBatch by decide),
    dif_pos (show (1 : Fin S32x512.rank) ∈ prodDims.rhsNonContracting by decide)]
  rfl

/-- Into the zero accumulator, the product at `(i, j)` is the sum over the 32 contraction places. -/
theorem prod_apply (l : FVec Ideal S1024x32 .bf16) (r : FVec Ideal S32x512 .bf16) (i : Fin 1024) (j : Fin 512) :
    matmul prodDims none l r (constant (F := Ideal) S1024x512 .f32 0x00000000#32) (ix2 i j)
      = ∑ k : Fin 32, l (ix2 i k) * r (ix2 k j) := by
  show FloatOps.matmul prodDims none l r (constant (F := Ideal) S1024x512 .f32 0x00000000#32) (ix2 i j) = _
  rw [Ideal.matmul_constant_zero_apply, ← Equiv.sum_comp (contrEquiv1 prodDims 32 rfl rfl).symm]
  refine Finset.sum_congr rfl fun k _ => ?_
  have hk := contrEquiv1_symm_val prodDims 32 rfl rfl k
  have el : prodDims.lhsIdx (ix2 i j) ((contrEquiv1 prodDims 32 rfl rfl).symm k) = ix2 i k :=
    funext fun a => Fin.ext (by
      match a with
      | ⟨0, _⟩ => exact prod_lhs0 _ _
      | ⟨1, _⟩ => exact (prod_lhs1 _ _).trans hk)
  have er : prodDims.rhsIdx (ix2 i j) ((contrEquiv1 prodDims 32 rfl rfl).symm k) = ix2 k j :=
    funext fun a => Fin.ext (by
      match a with
      | ⟨0, _⟩ => exact (prod_rhs0 _ _).trans hk
      | ⟨1, _⟩ => exact prod_rhs1 _ _)
  rw [el, er]

/-! ## The column halves of the right block -/

theorem half0_apply (w : FVec Ideal S32x1024 .bf16) (hs : S32x1024.Slices ![0, 0] S32x512) (k : Fin 32) (j : Fin 512) :
    extractStridedSlice S32x512 ![0, 0] w hs (ix2 k j) = w (ix2 k (col 0 j)) :=
  extractStridedSlice_apply _ w hs _ _ fun a => by
    match a with
    | ⟨0, _⟩ => show k.val = 0 + k.val; omega
    | ⟨1, _⟩ => show 512 * 0 + j.val = 0 + j.val; omega

theorem half1_apply (w : FVec Ideal S32x1024 .bf16) (hs : S32x1024.Slices ![0, 512] S32x512) (k : Fin 32) (j : Fin 512) :
    extractStridedSlice S32x512 ![0, 512] w hs (ix2 k j) = w (ix2 k (col 1 j)) :=
  extractStridedSlice_apply _ w hs _ _ fun a => by
    match a with
    | ⟨0, _⟩ => show k.val = 0 + k.val; omega
    | ⟨1, _⟩ => show 512 * 1 + j.val = 512 + j.val; omega

/-! ## The two halves of the partial product -/

/-- Half 0 of the device's partial product at `(i, j)`. -/
theorem pay3_apply (x : Vec Ideal S1024x32 .f32) (w : Vec Ideal S32x1024 .f32) (i : Fin 1024) (j : Fin 512) :
    Gen.k0_pay3 (F := Ideal) x w (ix2 i j) = ∑ k : Fin 32, x (ix2 i k) * w (ix2 k (col 0 j)) := by
  have e : Gen.k0_pay3 (F := Ideal) x w
      = shapeCast S1024x512 (matmul prodDims none (Gen.k0_pay1 x)
          (extractStridedSlice S32x512 ![0, 0] (Gen.k0_pay2 w) slices_S32x1024_o0_0_S32x512)
          (constant (F := Ideal) S1024x512 .f32 0x00000000#32)) shapeCasts_S1024x512_S1024x512 := rfl
  rw [e, shapeCast_self, pay1_eq, pay2_eq, prod_apply]
  refine Finset.sum_congr rfl fun k _ => ?_
  rw [half0_apply]

/-- Half 1 of the device's partial product at `(i, j)`; its operands are the blocks already in the matrix unit's format. -/
theorem pay5_apply (x : FVec Ideal S1024x32 .bf16) (w : FVec Ideal S32x1024 .bf16) (i : Fin 1024) (j : Fin 512) :
    Gen.k0_pay5 (F := Ideal) x w (ix2 i j) = ∑ k : Fin 32, x (ix2 i k) * w (ix2 k (col 1 j)) := by
  have e : Gen.k0_pay5 (F := Ideal) x w
      = shapeCast S1024x512 (matmul prodDims none x
          (extractStridedSlice S32x512 ![0, 512] w slices_S32x1024_o0_512_S32x512)
          (constant (F := Ideal) S1024x512 .f32 0x00000000#32)) shapeCasts_S1024x512_S1024x512 := rfl
  rw [e, shapeCast_self, prod_apply]
  refine Finset.sum_congr rfl fun k _ => ?_
  rw [half1_apply]

/-- info: 'Cert.GemmGelu.pay3_apply' depends on axioms: [propext, Classical.choice, Quot.sound] -/
#guard_msgs in #print axioms pay3_apply

/-- info: 'Cert.GemmGelu.pay5_apply' depends on axioms: [propext, Classical.choice, Quot.sound] -/
#guard_msgs in #print axioms pay5_apply

end Cert.GemmGelu

end
-- ==== Proof.KernelGeluAtIndex.lean ====
/-
  The kernel's reduce-and-GELU payloads read at an index, at the ideal values: the sum over the 32 slots of a
  received [1, 32, 32, 512] buffer half, followed by the tanh-GELU with its cubic associated from the left; the
  casts that put a row chunk into a slot; and the final widening, which is the identity.
-/
import proofs.«900438_g7700000000000439_dist_gemm_ar_m1024_k1024_n1024_f32_gelu_v7x_i32_1_alg».proof.Proof.Gen.KernelIdeal.Skeleton
import proofs.«900438_g7700000000000439_dist_gemm_ar_m1024_k1024_n1024_f32_gelu_v7x_i32_1_alg».proof.Proof.GeluSlabAlgebra
import Idealize.ShloMosaic.Lib.Pipeline.Value
import Idealize.ShloMosaic.Lib.ValueIdx
import Idealize.ShloMosaic.PureOps.Ideal.Laws

noncomputable section

open scoped BigOperators

namespace Cert.GemmGelu

open Idealize.ShloMosaic Idealize.ShloMosaic.ValueIdx Cert.KernelIdeal Cert.KernelIdeal.Gen

/-! ## A row chunk put into a slot: a [32, 512] block seen as [1, 1, 32, 512] -/

theorem chunkCast_apply (v : Vec Ideal S32x512 .bf16) (h : S32x512.ShapeCasts S1x1x32x512) (a b : Fin 1) (r : Fin 32) (j : Fin 512) :
    shapeCast S1x1x32x512 v h (ix4 a b r j) = v (ix2 r j) :=
  shapeCast_apply v h _ _ (by
    rw [Shape.rowMajor_val_two, Shape.rowMajor_val_four]
    show r.val * 512 + j.val = ((a.val * 1 + b.val) * 32 + r.val) * 512 + j.val
    have := a.isLt; have := b.isLt
    omega)

theorem pay4_apply (v : Vec Ideal S32x512 .bf16) (a b : Fin 1) (r : Fin 32) (j : Fin 512) :
    Gen.k0_pay4 (F := Ideal) v (ix4 a b r j) = v (ix2 r j) :=
  chunkCast_apply v _ a b r j

theorem pay6_apply (v : Vec Ideal S32x512 .bf16) (a b : Fin 1) (r : Fin 32) (j : Fin 512) :
    Gen.k0_pay6 (F := Ideal) v (ix4 a b r j) = v (ix2 r j) :=
  chunkCast_apply v _ a b r j

/-! ## The sum over the slots -/

/-- A [1, 32, 32, 512] buffer half seen as [32, 32, 512]. -/
theorem slotsCast_apply (v : Vec Ideal S1x32x32x512 .bf16) (h : S1x32x32x512.ShapeCasts S32x32x512) (s r : Fin 32) (j : Fin 512) :
    shapeCast S32x32x512 v h (ix3 s r j) = v (ix4 (0 : Fin 1) s r j) :=
  shapeCast_apply v h _ _ (by
    rw [Shape.rowMajor_val_four, Shape.rowMajor_val_three]
    show ((0 * 32 + s.val) * 32 + r.val) * 512 + j.val = (s.val * 32 + r.val) * 512 + j.val
    omega)

/-- The sum over axis 0 of a [32, 32, 512] vector at `(r, j)` is the sum over the slots `s` of the vector at `(s, r, j)`. -/
theorem slotSum_apply (src : FVec Ideal S32x32x512 .f32) (h : S32x32x512.Reduces [0] S32x512) (hφ : FKind.Formats .f32)
    (hacc : (0x00000000#32 : BitVec 32) = FKind.add.neutral .f32 hφ) (r : Fin 32) (j : Fin 512) :
    multiReduction (F := Ideal) .add [0] S32x512 src 0x00000000#32 h hφ hacc (ix2 r j) = ∑ s : Fin 32, src (ix3 s r j) := by
  refine (Ideal.multiReduction_add_single src 0x00000000#32 h hφ hacc (ix2 r j)).trans ?_
  refine Finset.sum_congr rfl fun s _ => congrArg src (funext fun a => Fin.ext ?_)
  match a with
  | ⟨0, _⟩ => rfl
  | ⟨1, _⟩ => rfl
  | ⟨2, _⟩ => rfl

/-- The received half summed over its slots, at `(r, j)`. -/
theorem pay8_apply (v : Vec Ideal S1x32x32x512 .bf16) (r : Fin 32) (j : Fin 512) :
    Gen.k0_pay8 (F := Ideal) v (ix2 r j) = ∑ s : Fin 32, v (ix4 (0 : Fin 1) s r j) := by
  have e : Gen.k0_pay8 (F := Ideal) v
      = multiReduction (F := Ideal) .add [0] S32x512 (shapeCast S32x32x512 v shapeCasts_S1x32x32x512_S32x32x512)
          0x00000000#32 reduces_S32x32x512_S32x512 (.inl rfl) rfl := rfl
  rw [e]
  refine (slotSum_apply _ _ _ _ r j).trans ?_
  refine Finset.sum_congr rfl fun s _ => ?_
  exact slotsCast_apply v _ s r j

/-! ## The GELU of the sum -/

/-- Half 0: the GELU (cubic from the left) of the sum over the slots. -/
theorem pay7_eq (v : Vec Ideal S1x32x32x512 .bf16) :
    Gen.k0_pay7 (F := Ideal) v = fun i => geluLeft (Gen.k0_pay8 (F := Ideal) v i) :=
  shapeCast_self _ _

theorem pay7_apply (v : Vec Ideal S1x32x32x512 .bf16) (r : Fin 32) (j : Fin 512) :
    Gen.k0_pay7 (F := Ideal) v (ix2 r j) = geluLeft (∑ s : Fin 32, v (ix4 (0 : Fin 1) s r j)) := by
  rw [pay7_eq]
  exact congrArg geluLeft (pay8_apply v r j)

/-- Half 1: the same arithmetic, cut in three. -/
theorem pay11_eq (v : Vec Ideal S1x32x32x512 .bf16) :
    Gen.k0_pay11 (F := Ideal) (Gen.k0_pay9 (F := Ideal) v) (Gen.k0_pay10 (F := Ideal) v)
      = fun i => geluLeft (Gen.k0_pay8 (F := Ideal) v i) :=
  shapeCast_self _ _

theorem pay11_apply (v : Vec Ideal S1x32x32x512 .bf16) (r : Fin 32) (j : Fin 512) :
    Gen.k0_pay11 (F := Ideal) (Gen.k0_pay9 (F := Ideal) v) (Gen.k0_pay10 (F := Ideal) v) (ix2 r j)
      = geluLeft (∑ s : Fin 32, v (ix4 (0 : Fin 1) s r j)) := by
  rw [pay11_eq]
  exact congrArg geluLeft (pay8_apply v r j)

/-! ## The final widening -/

theorem pay12_eq (v : Vec Ideal S1024x512 .bf16) : Gen.k0_pay12 (F := Ideal) v = v := rfl

theorem pay13_eq (v : Vec Ideal S1024x512 .bf16) : Gen.k0_pay13 (F := Ideal) v = v := rfl

/-- info: 'Cert.GemmGelu.pay7_apply' depends on axioms: [propext, Classical.choice, Quot.sound] -/
#guard_msgs in #print axioms pay7_apply

/-- info: 'Cert.GemmGelu.pay11_apply' depends on axioms: [propext, Classical.choice, Quot.sound] -/
#guard_msgs in #print axioms pay11_apply

/-- info: 'Cert.GemmGelu.pay4_apply' depends on axioms: [propext, Classical.choice, Quot.sound] -/
#guard_msgs in #print axioms pay4_apply

end Cert.GemmGelu

end
-- ==== Proof.PartialProductsSum.lean ====
/-
  From the devices' blocks to the whole arrays.  Device `d` of 32 holds the column block `d` of `X` (columns
  `32 d … 32 d + 31`) and the row block `d` of `W`; its partial product at `(i, j)` is the sum over its 32 contraction
  places.  The sum of the 32 partial products, taken in the rotated order of the slots of any row chunk, followed by the
  GELU with its cubic from the left, is the specification at `(i, j)`.  No program is mentioned here.
-/
import proofs.«900438_g7700000000000439_dist_gemm_ar_m1024_k1024_n1024_f32_gelu_v7x_i32_1_alg».proof.Proof.GemmGeluSpec
import Idealize.ShloMosaic.Lib.Layout

noncomputable section

open scoped BigOperators

namespace Cert.GemmGelu

open Idealize.ShloMosaic Idealize.ShloMosaic.ValueIdx

/-- Device `d`'s block of the left array: its columns `32 d … 32 d + 31`. -/
def xblk (X : (⟨2, ![1024, 1024]⟩ : Shape).Idx → EReal) (d : Fin 32) : (⟨2, ![1024, 32]⟩ : Shape).Idx → EReal :=
  Layout.block ⟨2, ![1024, 32]⟩ ⟨2, ![1024, 1024]⟩ 1 32 d X

/-- Device `d`'s block of the right array: its rows `32 d … 32 d + 31`. -/
def wblk (W : (⟨2, ![1024, 1024]⟩ : Shape).Idx → EReal) (d : Fin 32) : (⟨2, ![32, 1024]⟩ : Shape).Idx → EReal :=
  Layout.block ⟨2, ![32, 1024]⟩ ⟨2, ![1024, 1024]⟩ 0 32 d W

/-- A column block read at `(i, k)` is the array at `(i, 32 d + k)`, whatever proof of the tiling names the block. -/
theorem colBlock_apply {α : Type} (X : (⟨2, ![1024, 1024]⟩ : Shape).Idx → α) (d : Fin 32)
    (h : Layout.Tiles ⟨2, ![1024, 32]⟩ ⟨2, ![1024, 1024]⟩ 1 32) (i : Fin 1024) (k : Fin 32) :
    Layout.block ⟨2, ![1024, 32]⟩ ⟨2, ![1024, 1024]⟩ 1 32 d X h (ix2 i k) = X (ix2 i (place d k)) := by
  rw [Layout.block_apply]
  refine congrArg X (funext fun a => Fin.ext ?_)
  match a with
  | ⟨0, _⟩ => rfl
  | ⟨1, _⟩ => show d.val * 32 + k.val = 32 * d.val + k.val; omega

/-- A row block read at `(k, j)` is the array at `(32 d + k, j)`. -/
theorem rowBlock_apply {α : Type} (W : (⟨2, ![1024, 1024]⟩ : Shape).Idx → α) (d : Fin 32)
    (h : Layout.Tiles ⟨2, ![32, 1024]⟩ ⟨2, ![1024, 1024]⟩ 0 32) (k : Fin 32) (j : Fin 1024) :
    Layout.block ⟨2, ![32, 1024]⟩ ⟨2, ![1024, 1024]⟩ 0 32 d W h (ix2 k j) = W (ix2 (place d k) j) := by
  rw [Layout.block_apply]
  refine congrArg W (funext fun a => Fin.ext ?_)
  match a with
  | ⟨0, _⟩ => show d.val * 32 + k.val = 32 * d.val + k.val; omega
  | ⟨1, _⟩ => rfl

theorem xblk_apply (X : (⟨2, ![1024, 1024]⟩ : Shape).Idx → EReal) (d : Fin 32) (i : Fin 1024) (k : Fin 32) :
    xblk X d (ix2 i k) = X (ix2 i (place d k)) := colBlock_apply X d _ i k

theorem wblk_apply (W : (⟨2, ![1024, 1024]⟩ : Shape).Idx → EReal) (d : Fin 32) (k : Fin 32) (j : Fin 1024) :
    wblk W d (ix2 k j) = W (ix2 (place d k) j) := rowBlock_apply W d _ k j

/-- Device `d`'s partial product at `(i, j)`: the sum over its 32 contraction places. -/
def partialDot (X W : (⟨2, ![1024, 1024]⟩ : Shape).Idx → EReal) (d : Fin 32) (i j : Fin 1024) : EReal :=
  ∑ k : Fin 32, xblk X d (ix2 i k) * wblk W d (ix2 k j)

theorem partialDot_eq (X W : (⟨2, ![1024, 1024]⟩ : Shape).Idx → EReal) (d : Fin 32) (i j : Fin 1024) :
    partialDot X W d i j = ∑ k : Fin 32, X (ix2 i (place d k)) * W (ix2 (place d k) j) := by
  unfold partialDot
  refine Finset.sum_congr rfl fun k _ => ?_
  rw [xblk_apply, wblk_apply]

/-- The 32 partial products sum to the product. -/
theorem sum_partialDot (X W : (⟨2, ![1024, 1024]⟩ : Shape).Idx → EReal) (i j : Fin 1024) :
    (∑ d : Fin 32, partialDot X W d i j) = dot X W i j := by
  rw [dot_slabs]
  exact Finset.sum_congr rfl fun d _ => partialDot_eq X W d i j

/-- … in the rotated order of the slots of row chunk `c` too. -/
theorem sum_slots_partialDot (X W : (⟨2, ![1024, 1024]⟩ : Shape).Idx → EReal) (c : Fin 32) (i j : Fin 1024) :
    (∑ s : Fin 32, partialDot X W (source c s) i j) = dot X W i j := by
  rw [sum_source (fun d => partialDot X W d i j) c, sum_partialDot]

/-- THE VALUE BRIDGE AT AN INDEX: the GELU (cubic from the left) of the slot-ordered sum of the partial products is the
    specification. -/
theorem geluLeft_sum_slots (X W : (⟨2, ![1024, 1024]⟩ : Shape).Idx → EReal) (c : Fin 32) (i j : Fin 1024) :
    geluLeft (∑ s : Fin 32, partialDot X W (source c s) i j) = gemmGelu X W (ix2 i j) := by
  rw [geluLeft_eq_gelu, sum_slots_partialDot, gemmGelu_ix2]

/-! ## Rows by chunk -/

/-- Row `r` of row chunk `c` is row `32 c + r` of the array. -/
def row (c r : Fin 32) : Fin 1024 := ⟨32 * c.val + r.val, by have := c.isLt; have := r.isLt; omega⟩

theorem row_val (c r : Fin 32) : (row c r).val = 32 * c.val + r.val := rfl

/-- Every row is a row of its chunk. -/
theorem row_div_mod (i : Fin 1024) : row ⟨i.val / 32, by omega⟩ ⟨i.val % 32, by omega⟩ = i :=
  Fin.ext (by show 32 * (i.val / 32) + i.val % 32 = i.val; omega)

/-- Every index of the array is a row of a row chunk and a column of a column half. -/
theorem exists_row_col (i : (⟨2, ![1024, 1024]⟩ : Shape).Idx) :
    ∃ (c r : Fin 32) (h : Fin 2) (j : Fin 512), i = ix2 (row c r) (col h j) :=
  ⟨⟨(i 0).val / 32, by have := idx2_lt0 i; omega⟩, ⟨(i 0).val % 32, by omega⟩,
    ⟨(i 1).val / 512, by have := idx2_lt1 i; omega⟩, ⟨(i 1).val % 512, by omega⟩, by
    funext a
    match a with
    | ⟨0, _⟩ => exact Fin.ext (by show (i 0).val = 32 * ((i 0).val / 32) + (i 0).val % 32; omega)
    | ⟨1, _⟩ => exact Fin.ext (by show (i 1).val = 512 * ((i 1).val / 512) + (i 1).val % 512; omega)⟩

/-- info: 'Cert.GemmGelu.geluLeft_sum_slots' depends on axioms: [propext, Classical.choice, Quot.sound] -/
#guard_msgs in #print axioms geluLeft_sum_slots

end Cert.GemmGelu

end
-- ==== Proof.KernelOnBlocks.lean ====
/-
  The kernel's payloads on the devices' blocks of the whole arrays: each half of a device's accumulated product is
  its partial product of the whole arrays, and the reduce-and-GELU payload of a buffer half whose slot `s` holds row chunk
  `c` of the partial product of device `(c + 32 - s) % 32` is the specification on that row chunk and column half.
-/
import proofs.«900438_g7700000000000439_dist_gemm_ar_m1024_k1024_n1024_f32_gelu_v7x_i32_1_alg».proof.Proof.KernelProductAtIndex
import proofs.«900438_g7700000000000439_dist_gemm_ar_m1024_k1024_n1024_f32_gelu_v7x_i32_1_alg».proof.Proof.KernelGeluAtIndex
import proofs.«900438_g7700000000000439_dist_gemm_ar_m1024_k1024_n1024_f32_gelu_v7x_i32_1_alg».proof.Proof.PartialProductsSum

noncomputable section

open scoped BigOperators

namespace Cert.GemmGelu

open Idealize.ShloMosaic Idealize.ShloMosaic.ValueIdx Cert.KernelIdeal Cert.KernelIdeal.Gen

/-! ## A device's accumulated product, half by half -/

theorem pay3_blocks (X W : (⟨2, ![1024, 1024]⟩ : Shape).Idx → EReal) (d : Fin 32) (i : Fin 1024) (j : Fin 512) :
    Gen.k0_pay3 (F := Ideal) (xblk X d) (wblk W d) (ix2 i j) = partialDot X W d i (col 0 j) :=
  pay3_apply (xblk X d) (wblk W d) i j

theorem pay5_blocks (X W : (⟨2, ![1024, 1024]⟩ : Shape).Idx → EReal) (d : Fin 32) (i : Fin 1024) (j : Fin 512) :
    Gen.k0_pay5 (F := Ideal) (Gen.k0_pay1 (F := Ideal) (xblk X d)) (Gen.k0_pay2 (F := Ideal) (wblk W d)) (ix2 i j)
      = partialDot X W d i (col 1 j) := by
  rw [pay1_eq, pay2_eq]
  exact pay5_apply (xblk X d) (wblk W d) i j

/-! ## The reduce-and-GELU payloads on a filled buffer half -/

/-- Half 0. -/
theorem pay7_slots (X W : (⟨2, ![1024, 1024]⟩ : Shape).Idx → EReal) (c : Fin 32) (h : Fin 2)
    (v : Vec Ideal S1x32x32x512 .bf16)
    (hv : ∀ (s r : Fin 32) (j : Fin 512), v (ix4 (0 : Fin 1) s r j) = partialDot X W (source c s) (row c r) (col h j))
    (r : Fin 32) (j : Fin 512) :
    Gen.k0_pay7 (F := Ideal) v (ix2 r j) = gemmGelu X W (ix2 (row c r) (col h j)) := by
  rw [pay7_apply, ← geluLeft_sum_slots X W c]
  exact congrArg geluLeft (Finset.sum_congr rfl fun s _ => hv s r j)

/-- Half 1. -/
theorem pay11_slots (X W : (⟨2, ![1024, 1024]⟩ : Shape).Idx → EReal) (c : Fin 32) (h : Fin 2)
    (v : Vec Ideal S1x32x32x512 .bf16)
    (hv : ∀ (s r : Fin 32) (j : Fin 512), v (ix4 (0 : Fin 1) s r j) = partialDot X W (source c s) (row c r) (col h j))
    (r : Fin 32) (j : Fin 512) :
    Gen.k0_pay11 (F := Ideal) (Gen.k0_pay9 (F := Ideal) v) (Gen.k0_pay10 (F := Ideal) v) (ix2 r j)
      = gemmGelu X W (ix2 (row c r) (col h j)) := by
  rw [pay11_apply, ← geluLeft_sum_slots X W c]
  exact congrArg geluLeft (Finset.sum_congr rfl fun s _ => hv s r j)

/-- info: 'Cert.GemmGelu.pay7_slots' depends on axioms: [propext, Classical.choice, Quot.sound] -/
#guard_msgs in #print axioms pay7_slots

/-- info: 'Cert.GemmGelu.pay11_slots' depends on axioms: [propext, Classical.choice, Quot.sound] -/
#guard_msgs in #print axioms pay11_slots

/-- info: 'Cert.GemmGelu.pay5_blocks' depends on axioms: [propext, Classical.choice, Quot.sound] -/
#guard_msgs in #print axioms pay5_blocks

end Cert.GemmGelu

end
-- ==== Proof.ReferenceIsGemmGelu.lean ====
/-
  The reference program's result is the specification: read at an index, its eighteen operations are the
  tanh-GELU (cubic associated from the right) of the one 1024-term sum.
-/
import proofs.«900438_g7700000000000439_dist_gemm_ar_m1024_k1024_n1024_f32_gelu_v7x_i32_1_alg».proof.Proof.Gen.ReferenceIdeal.Read
import proofs.«900438_g7700000000000439_dist_gemm_ar_m1024_k1024_n1024_f32_gelu_v7x_i32_1_alg».proof.Proof.GemmGeluSpec

noncomputable section

open scoped BigOperators

namespace Cert.GemmGelu

open Idealize.ShloMosaic Idealize.ShloMosaic.ValueIdx Cert.ReferenceIdeal

/-- The left operand's index at output index `i` and contraction place `k` is `(i 0, k)`. -/
theorem ref_lidx (i : S1024x1024.Idx) (k : Fin 1024) : Read.lidx_main_v0 i k = ix2 (i 0) k :=
  funext fun a => Fin.ext (by match a with | ⟨0, _⟩ => rfl | ⟨1, _⟩ => rfl)

/-- The right operand's is `(k, i 1)`. -/
theorem ref_ridx (i : S1024x1024.Idx) (k : Fin 1024) : Read.ridx_main_v0 i k = ix2 k (i 1) :=
  funext fun a => Fin.ext (by match a with | ⟨0, _⟩ => rfl | ⟨1, _⟩ => rfl)

/-- The reference's product is `dot`. -/
theorem ref_dot (X W : (⟨S1024x1024, .f32⟩ : BufTy).Contents (Elt Ideal)) (i : S1024x1024.Idx) :
    Read.val_main_v0 (F := Ideal) X W i = dot X W (i 0) (i 1) := by
  rw [Read.val_main_v0_apply]
  unfold dot
  refine Finset.sum_congr rfl fun k _ => ?_
  rw [ref_lidx, ref_ridx]
  rfl

/-- THE REFERENCE IS THE SPECIFICATION. -/
theorem reference_eq_gemmGelu (X W : (⟨S1024x1024, .f32⟩ : BufTy).Contents (Elt Ideal)) :
    Read.val_main_v13 (F := Ideal) X W = gemmGelu X W := by
  funext i
  rw [Read.val_main_v13_apply, Read.val_main_v2_apply, Read.val_main_v12_apply, Read.val_main_v1_apply,
    Read.val_main_cst_apply, Read.val_main_v11_apply, Read.val_main_cst_2_apply, Read.val_main_v10_apply,
    Read.val_main_v9_apply, Read.val_main_v8_apply, Read.val_main_cst_1_apply, Read.val_main_v7_apply,
    Read.val_main_v6_apply, Read.val_main_v5_apply, Read.val_main_cst_0_apply, Read.val_main_v4_apply,
    Read.val_main_v3_apply, ref_dot]
  simp only [Ideal.mulf_def, Ideal.addf_def, Ideal.hostUnary_tanh_def, Ideal.ofBits_def]
  rfl

/-- info: 'Cert.GemmGelu.reference_eq_gemmGelu' depends on axioms: [propext, Classical.choice, Quot.sound] -/
#guard_msgs in #print axioms reference_eq_gemmGelu

end Cert.GemmGelu

end
-- ==== Proof.StagedBlocksAreArguments.lean ====
/-
  Each of the two input windows has one block, the whole argument array at block index 0: read off the array as
  launched, the block is the array.
-/
import proofs.«900438_g7700000000000439_dist_gemm_ar_m1024_k1024_n1024_f32_gelu_v7x_i32_1_alg».proof.Proof.Gen.KernelIdeal.Frame

noncomputable section

namespace Cert.GemmGelu

open Idealize.ShloMosaic Idealize.ShloMosaic.TcCoe Idealize.SL.Sem Cert.KernelIdeal Cert.KernelIdeal.Gen

variable {F : FTy → Type} [FloatOps F]

/-- Window 0's block is the left argument as launched. -/
theorem iblk0_eq (m : (ℓ : Loc nD τ sig) → Buf (Elt F) ℓ) (c : Dev nD) :
    Gen.iblk m c 0 t0_0 = m ((c : Thread nD τ).loc main_arg0) := by
  unfold Gen.iblk
  refine Memref.read_access_unit_zero (Elt F) main_arg0 (funext fun a => ?_) _ _
  match a with
  | ⟨0, _⟩ => rfl
  | ⟨1, _⟩ => rfl

/-- Window 1's block is the right argument as launched. -/
theorem iblk1_eq (m : (ℓ : Loc nD τ sig) → Buf (Elt F) ℓ) (c : Dev nD) :
    Gen.iblk m c 1 t0_0 = m ((c : Thread nD τ).loc main_arg1) := by
  unfold Gen.iblk
  refine Memref.read_access_unit_zero (Elt F) main_arg1 (funext fun a => ?_) _ _
  match a with
  | ⟨0, _⟩ => rfl
  | ⟨1, _⟩ => rfl

/-- info: 'Cert.GemmGelu.iblk0_eq' depends on axioms: [propext, Classical.choice, Quot.sound] -/
#guard_msgs in #print axioms iblk0_eq

/-- info: 'Cert.GemmGelu.iblk1_eq' depends on axioms: [propext, Classical.choice, Quot.sound] -/
#guard_msgs in #print axioms iblk1_eq

end Cert.GemmGelu

end
-- ==== Proof.ResultIsGemmGelu.lean ====
/-
  The value the all-reduce protocol leaves in the result array is the specification: each device's partial
  product read on the devices' blocks of the whole arrays, the chunk a device receives in slot `s` the one sent by
  the device `s` places before it, the 32 slots summed and passed through the GELU, the finished chunks gathered and
  widened.
-/
import proofs.«900438_g7700000000000439_dist_gemm_ar_m1024_k1024_n1024_f32_gelu_v7x_i32_1_alg».proof.Proof.Protocol
import proofs.«900438_g7700000000000439_dist_gemm_ar_m1024_k1024_n1024_f32_gelu_v7x_i32_1_alg».proof.Proof.KernelOnBlocks
import proofs.«900438_g7700000000000439_dist_gemm_ar_m1024_k1024_n1024_f32_gelu_v7x_i32_1_alg».proof.Proof.ReferenceIsGemmGelu
import proofs.«900438_g7700000000000439_dist_gemm_ar_m1024_k1024_n1024_f32_gelu_v7x_i32_1_alg».proof.Proof.StagedBlocksAreArguments

noncomputable section

open scoped BigOperators

namespace Cert.GemmGelu

open Idealize.ShloMosaic Idealize.ShloMosaic.ValueIdx Idealize.SL.Sem
open Idealize.ShloMosaic.TcCoe
open Cert.KernelIdeal Cert.KernelIdeal.Gen Cert.KernelIdeal.AllReduce

/-! ## The staged slabs are the arguments as launched -/

theorem xIn_eq {F : FTy → Type} [FloatOps F] (m : (ℓ : Loc nD τ sig) → Buf (Elt F) ℓ) (d : Dev nD) :
    xIn m d = m ((d : Thread nD τ).loc main_arg0) := iblk0_eq m d

theorem wIn_eq {F : FTy → Type} [FloatOps F] (m : (ℓ : Loc nD τ sig) → Buf (Elt F) ℓ) (d : Dev nD) :
    wIn m d = m ((d : Thread nD τ).loc main_arg1) := iblk1_eq m d

/-! ## The value on the devices' blocks of the whole arrays -/

section
variable (m : (ℓ : Loc nD τ sig) → Buf (Elt Ideal) ℓ) (X W : (⟨2, ![1024, 1024]⟩ : Shape).Idx → EReal)
  (hx : ∀ d : Dev nD, xIn (F := Ideal) m d = xblk X d) (hw : ∀ d : Dev nD, wIn (F := Ideal) m d = wblk W d)
include hx hw

/-- Device `d`'s accumulated product, half `h`, is its partial product of the whole arrays. -/
theorem part_apply (d : Dev nD) (h : Fin 2) (i : Fin 1024) (j : Fin 512) :
    part (F := Ideal) m d h (ix2 i j) = partialDot X W d i (col h j) := by
  unfold part
  rw [hx, hw]
  match h with
  | 0 => rw [if_pos rfl]; exact pay3_blocks X W d i j
  | 1 => rw [if_neg (by decide)]; exact pay5_blocks X W d i j

/-- What device `d` sends to device `c`. -/
theorem sent_apply (d c : Dev nD) (h : Fin 2) (r : Fin 32) (j : Fin 512) :
    sent (F := Ideal) m d c h (ix2 r j) = partialDot X W d (row c r) (col h j) :=
  part_apply m X W hx hw d h (row c r) j

/-- The filled buffer half of device `c`: slot `s` holds the chunk of the device `s` places before `c`. -/
theorem halfVal_apply (c : Dev nD) (h : Fin 2) (s r : Fin 32) (j : Fin 512) :
    halfVal (F := Ideal) m c h (ix4 (0 : Fin 1) s r j) = partialDot X W (source c s) (row c r) (col h j) :=
  sent_apply m X W hx hw (source c s) c h r j

/-- The reduced chunk of device `c` is the specification on its rows. -/
theorem reduced_apply (c : Dev nD) (h : Fin 2) (r : Fin 32) (j : Fin 512) :
    reduced (F := Ideal) m c h (ix2 r j) = gemmGelu X W (ix2 (row c r) (col h j)) := by
  unfold reduced
  match h with
  | 0 =>
    rw [if_pos rfl]
    exact pay7_slots X W c 0 _ (fun s r j => halfVal_apply m X W hx hw c 0 s r j) r j
  | 1 =>
    rw [if_neg (by decide)]
    exact pay11_slots X W c 1 _ (fun s r j => halfVal_apply m X W hx hw c 1 s r j) r j

/-- The gathered half is the specification on its columns. -/
theorem gathered_apply (h : Fin 2) (i : Fin 1024) (j : Fin 512) :
    gathered (F := Ideal) m h (ix2 i j) = gemmGelu X W (ix2 i (col h j)) := by
  unfold gathered
  refine (reduced_apply m X W hx hw _ h _ j).trans ?_
  exact congrArg (fun a => gemmGelu X W (ix2 a (col h j))) (row_div_mod i)

/-- THE RESULT ARRAY IS THE SPECIFICATION. -/
theorem result_eq_gemmGelu : result (F := Ideal) m = gemmGelu X W := by
  funext i
  obtain ⟨a, b, rfl⟩ : ∃ (a b : Fin 1024), i = ix2 a b := ⟨i 0, i 1, eq_ix2 i⟩
  unfold result
  by_cases hlt : b.val < 512
  · rw [dif_pos (show ((ix2 a b : (⟨2, ![1024, 1024]⟩ : Shape).Idx) 1).val < 512 from hlt), pay12_eq]
    refine (gathered_apply m X W hx hw 0 a ⟨b.val, hlt⟩).trans ?_
    exact congrArg (fun c => gemmGelu X W (ix2 a c)) (Fin.ext (by show 512 * 0 + b.val = b.val; omega))
  · rw [dif_neg (show ¬ ((ix2 a b : (⟨2, ![1024, 1024]⟩ : Shape).Idx) 1).val < 512 from hlt), pay13_eq]
    refine (gathered_apply m X W hx hw 1 a ⟨b.val - 512, by have := b.isLt; omega⟩).trans ?_
    exact congrArg (fun c => gemmGelu X W (ix2 a c)) (Fin.ext (by show 512 * 1 + (b.val - 512) = b.val; omega))

/-- … and so the reference's result on the whole arrays. -/
theorem result_eq_reference : result (F := Ideal) m = Cert.ReferenceIdeal.Read.val_main_v13 (F := Ideal) X W :=
  (result_eq_gemmGelu m X W hx hw).trans (reference_eq_gemmGelu X W).symm

end

/-- From the launch memory: every device's arguments the blocks of the whole arrays `X`, `W`. -/
theorem result_eq_reference_of_blocks (m : (ℓ : Loc nD τ sig) → Buf (Elt Ideal) ℓ)
    (X W : (⟨2, ![1024, 1024]⟩ : Shape).Idx → EReal)
    (hm : ∀ c : Dev nD,
      m ((c.tc : Thread nD τ).loc main_arg0) = Layout.block ⟨2, ![1024, 32]⟩ ⟨2, ![1024, 1024]⟩ 1 32 c X
      ∧ m ((c.tc : Thread nD τ).loc main_arg1) = Layout.block ⟨2, ![32, 1024]⟩ ⟨2, ![1024, 1024]⟩ 0 32 c W) :
    result (F := Ideal) m = Cert.ReferenceIdeal.Read.val_main_v13 (F := Ideal) X W :=
  result_eq_reference m X W (fun d => (xIn_eq m d).trans (hm d).1) (fun d => (wIn_eq m d).trans (hm d).2)

/-- info: 'Cert.GemmGelu.result_eq_reference_of_blocks' depends on axioms: [propext, Classical.choice, Quot.sound] -/
#guard_msgs in #print axioms result_eq_reference_of_blocks

/-- info: 'Cert.GemmGelu.result_eq_gemmGelu' depends on axioms: [propext, Classical.choice, Quot.sound] -/
#guard_msgs in #print axioms result_eq_gemmGelu

/-- info: 'Cert.GemmGelu.result_eq_reference' depends on axioms: [propext, Classical.choice, Quot.sound] -/
#guard_msgs in #print axioms result_eq_reference

end Cert.GemmGelu

end
-- ==== Proof.ReferenceRun.lean ====
/-
  The reference's run, with its result named as the last stage of its operations read as functions of the two
  argument arrays.
-/
import proofs.«900438_g7700000000000439_dist_gemm_ar_m1024_k1024_n1024_f32_gelu_v7x_i32_1_alg».proof.Proof.Gen.ReferenceIdeal.Read

noncomputable section

namespace Cert.GemmGelu

open Idealize.ShloMosaic Idealize.ShloMosaic.TcCoe Idealize.SL.Sem Idealize.ShloMosaic.StableHlo
open Cert.ReferenceIdeal Cert.ReferenceIdeal.Gen

/-- Every weakly fair execution of the reference terminates with its result the stage `val_main_v13` of the launch
    contents of its two arguments, and the arguments unchanged. -/
theorem reference_run (m' : (ℓ : Loc nD τ sig) → Buf (Elt Ideal) ℓ) (g' : Dev nD → PrngReg) :
    θ_run (defs (F := Ideal)) (onTc (τ := τ) (main (F := Ideal))) ⟨m', fun _ => 0, g'⟩ (fun r =>
      r.2.mem (((0 : Dev nD).tc : Thread nD τ).loc main_v13)
          = Read.val_main_v13 (F := Ideal) (m' (((0 : Dev nD).tc : Thread nD τ).loc main_arg0))
              (m' (((0 : Dev nD).tc : Thread nD τ).loc main_arg1))
      ∧ r.2.mem (((0 : Dev nD).tc : Thread nD τ).loc main_arg0) = m' (((0 : Dev nD).tc : Thread nD τ).loc main_arg0)
      ∧ r.2.mem (((0 : Dev nD).tc : Thread nD τ).loc main_arg1) = m' (((0 : Dev nD).tc : Thread nD τ).loc main_arg1)) :=
  (θ_run defs _ _).mono (fun _ h => ⟨(h 0).1.trans (Read.val_main_v13_eq _ _), (h 0).2⟩)
    (Cert.ReferenceIdeal.Value.run (F := Ideal) m' g')

/-- info: 'Cert.GemmGelu.reference_run' depends on axioms: [propext, Classical.choice, Quot.sound] -/
#guard_msgs in #print axioms reference_run

end Cert.GemmGelu

end
-- ==== Proof.AlgebraicClaim.lean ====
/-
  The algebraic claim: at the ideal instance the kernel's result array, the same on every device, is the reference's
  result on the whole arrays of which the devices' arguments are the blocks; the arguments of both end unchanged.
-/
import proofs.«900438_g7700000000000439_dist_gemm_ar_m1024_k1024_n1024_f32_gelu_v7x_i32_1_alg».proof.Defs
import proofs.«900438_g7700000000000439_dist_gemm_ar_m1024_k1024_n1024_f32_gelu_v7x_i32_1_alg».proof.Proof.LaunchFrames
import proofs.«900438_g7700000000000439_dist_gemm_ar_m1024_k1024_n1024_f32_gelu_v7x_i32_1_alg».proof.Proof.ResultIsGemmGelu
import proofs.«900438_g7700000000000439_dist_gemm_ar_m1024_k1024_n1024_f32_gelu_v7x_i32_1_alg».proof.Proof.ReferenceRun
import proofs.«900438_g7700000000000439_dist_gemm_ar_m1024_k1024_n1024_f32_gelu_v7x_i32_1_alg».proof.Proof.Gen.Pre_finite_inputs_Kernel
import proofs.«900438_g7700000000000439_dist_gemm_ar_m1024_k1024_n1024_f32_gelu_v7x_i32_1_alg».proof.Proof.Gen.ReferenceIdeal

noncomputable section

namespace Cert.GemmGelu

open Idealize.ShloMosaic Idealize.ShloMosaic.TcCoe Idealize.SL.Sem
open Idealize.ShloMosaic.Pipeline (BodyObligation)
open Cert.KernelIdeal Cert.KernelIdeal.Gen Cert.KernelIdeal.AllReduce

/-- Given each device's body obligation at the ideal instance: the kernel's run ends with every device's result array
    at the result the protocol names, which on blocks of whole arrays is the reference's result term; the reference's
    run ends at that term. -/
theorem algebraic_of_body
    (hbody : ∀ (m : (ℓ : Loc nD τ sig) → Buf (Elt Ideal) ℓ) (ρ : Dev nD → PrngReg) (c : Dev nD),
      BodyObligation (dats (F := Ideal) m ρ 0 c) (defs₀ (F := Ideal)) 𝒱₀ () Set.univ) :
    Cert.algebraic_KernelIdeal_ReferenceIdeal := by
  intro m g m' g' _ hagree
  refine ⟨Cert.ReferenceIdeal.Read.val_main_v13 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h c).1.trans (result_eq_reference_of_blocks m _ _ hagree), (h c).2⟩) (run_post m g (hbody m g))
  · exact reference_run m' g'

/-- info: 'Cert.GemmGelu.algebraic_of_body' depends on axioms: [propext, Classical.choice, Quot.sound] -/
#guard_msgs in #print axioms algebraic_of_body

end Cert.GemmGelu

end
-- ==== Proof.Names.lean ====
/-
  The kernel's spelling of its peers, semaphores and chunk views, restated under the protocol's names: the device of
  offset k is `fwd c k`, entry (h, k) of an array is `semAt (arr p) h k`, the source of the reduce copy of offset k is the
  chunk of rows of `fwd c k`, the destination of the gather copy landing at offset k holds the rows of `bwd c k`.
  One lemma per kind over (device, offset), from the closed forms of the printed offset chains; the kernel unrolls each
  31 times, so each has 31 literal instances.
-/
import proofs.«900438_g7700000000000439_dist_gemm_ar_m1024_k1024_n1024_f32_gelu_v7x_i32_1_alg».proof.Proof.Protocol

noncomputable section

namespace Cert.KernelIdeal.AllReduce

open Cert.KernelIdeal Cert.KernelIdeal.Gen
open Idealize.ShloMosaic Idealize.ShloMosaic.TcCoe Idealize.ShloMosaic.Tactic

theorem rect_unit_congr {s : Shape} {o o' : Fin s.rank → Nat} (sz : Fin s.rank → Nat) (h : o = o')
    (i : ∀ a, o a + sz a ≤ s.size a) (i' : ∀ a, o' a + sz a ≤ s.size a) : Rect.unit (s := s) o sz i = Rect.unit (s := s) o' sz i' := by
  subst h; rfl

theorem vec2_ext {a b a' b' : Nat} (h0 : a = a') (h1 : b = b') : (![a, b] : Fin 2 → Nat) = ![a', b'] := by subst h0 h1; rfl

/-- The source of the reduce copy of offset r + 1, half 0: the rows of the device r + 1 places ahead. -/
theorem acc0_eq (c : Dev nD) (r : Fin 31) (k : Fin 32) (hk : k.val = r.val + 1) :
    (Memref.whole cc0_scratch0 : Memref sig .tc .vmem S1024x1024 .bf16).slice (Rect.unit (s := S1024x1024) (k0_off2 c (BitVec.ofNat 32 (1 + r.val))) S32x512.size (k0_off2_inb c r)) (fun _ => rfl)
      = chunk accM (fwd c k) 0 := by
  unfold chunk; congr 1; apply rect_unit_congr; rw [k0_off2_eq]
  exact vec2_ext (by show 32 * ((c.val + r.val + 1) % 32) = 32 * ((c.val + k.val) % 32); rw [hk, Nat.add_assoc]) rfl
theorem acc1_eq (c : Dev nD) (r : Fin 31) (k : Fin 32) (hk : k.val = r.val + 1) :
    (Memref.whole cc0_scratch0 : Memref sig .tc .vmem S1024x1024 .bf16).slice (Rect.unit (s := S1024x1024) (k0_off4 c (BitVec.ofNat 32 (1 + r.val))) S32x512.size (k0_off4_inb c r)) (fun _ => rfl)
      = chunk accM (fwd c k) 1 := by
  unfold chunk; congr 1; apply rect_unit_congr; rw [k0_off4_eq]
  exact vec2_ext (by show 32 * ((c.val + r.val + 1) % 32) = 32 * ((c.val + k.val) % 32); rw [hk, Nat.add_assoc]) rfl
/-- The rows of device c itself in the gather buffer. -/
@[sl_canon] theorem out0_self (c : Dev nD) :
    (Memref.whole cc0_scratch1 : Memref sig .tc .vmem S1024x1024 .bf16).slice (Rect.unit (s := S1024x1024) (k0_off5 c) S32x512.size (k0_off5_inb c)) (fun _ => rfl) = chunk outM c 0 := by
  unfold chunk; congr 1; apply rect_unit_congr; rw [k0_off5_eq]; rfl
@[sl_canon] theorem out1_self (c : Dev nD) :
    (Memref.whole cc0_scratch1 : Memref sig .tc .vmem S1024x1024 .bf16).slice (Rect.unit (s := S1024x1024) (k0_off6 c) S32x512.size (k0_off6_inb c)) (fun _ => rfl) = chunk outM c 1 := by
  unfold chunk; congr 1; apply rect_unit_congr; rw [k0_off6_eq]; rfl
/-- Where the gather copy that lands at offset r + 1 writes: the rows of the device r + 1 places behind. -/
theorem out0_eq (c : Dev nD) (r : Fin 31) (k : Fin 32) (hk : k.val = r.val + 1) :
    (Memref.whole cc0_scratch1 : Memref sig .tc .vmem S1024x1024 .bf16).slice (Rect.unit (s := S1024x1024) (k0_off7 c (BitVec.ofNat 32 (1 + r.val))) S32x512.size (k0_off7_inb c r)) (fun _ => rfl)
      = chunk outM (bwd c k) 0 := by
  unfold chunk; congr 1; apply rect_unit_congr; rw [k0_off7_eq]
  exact vec2_ext (by show 32 * ((c.val + 31 - r.val) % 32) = 32 * ((c.val + 32 - k.val) % 32); rw [hk]; congr 2; have := r.isLt; omega) rfl
theorem out1_eq (c : Dev nD) (r : Fin 31) (k : Fin 32) (hk : k.val = r.val + 1) :
    (Memref.whole cc0_scratch1 : Memref sig .tc .vmem S1024x1024 .bf16).slice (Rect.unit (s := S1024x1024) (k0_off8 c (BitVec.ofNat 32 (1 + r.val))) S32x512.size (k0_off8_inb c r)) (fun _ => rfl)
      = chunk outM (bwd c k) 1 := by
  unfold chunk; congr 1; apply rect_unit_congr; rw [k0_off8_eq]
  exact vec2_ext (by show 32 * ((c.val + 31 - r.val) % 32) = 32 * ((c.val + 32 - k.val) % 32); rw [hk]; congr 2; have := r.isLt; omega) rfl

/-! ## The literal instances -/

@[sl_canon] theorem acc0_1 (c : Dev nD) : (Memref.whole cc0_scratch0 : Memref sig .tc .vmem S1024x1024 .bf16).slice (Rect.unit (s := S1024x1024) (k0_off2 c 1#32) S32x512.size (k0_off2_inb c 0)) (fun _ => rfl) = chunk accM (fwd c 1) 0 := acc0_eq c 0 1 rfl
@[sl_canon] theorem acc1_1 (c : Dev nD) : (Memref.whole cc0_scratch0 : Memref sig .tc .vmem S1024x1024 .bf16).slice (Rect.unit (s := S1024x1024) (k0_off4 c 1#32) S32x512.size (k0_off4_inb c 0)) (fun _ => rfl) = chunk accM (fwd c 1) 1 := acc1_eq c 0 1 rfl
@[sl_canon] theorem out0_1 (c : Dev nD) : (Memref.whole cc0_scratch1 : Memref sig .tc .vmem S1024x1024 .bf16).slice (Rect.unit (s := S1024x1024) (k0_off7 c 1#32) S32x512.size (k0_off7_inb c 0)) (fun _ => rfl) = chunk outM (bwd c 1) 0 := out0_eq c 0 1 rfl
@[sl_canon] theorem out1_1 (c : Dev nD) : (Memref.whole cc0_scratch1 : Memref sig .tc .vmem S1024x1024 .bf16).slice (Rect.unit (s := S1024x1024) (k0_off8 c 1#32) S32x512.size (k0_off8_inb c 0)) (fun _ => rfl) = chunk outM (bwd c 1) 1 := out1_eq c 0 1 rfl
@[sl_canon] theorem acc0_2 (c : Dev nD) : (Memref.whole cc0_scratch0 : Memref sig .tc .vmem S1024x1024 .bf16).slice (Rect.unit (s := S1024x1024) (k0_off2 c 2#32) S32x512.size (k0_off2_inb c 1)) (fun _ => rfl) = chunk accM (fwd c 2) 0 := acc0_eq c 1 2 rfl
@[sl_canon] theorem acc1_2 (c : Dev nD) : (Memref.whole cc0_scratch0 : Memref sig .tc .vmem S1024x1024 .bf16).slice (Rect.unit (s := S1024x1024) (k0_off4 c 2#32) S32x512.size (k0_off4_inb c 1)) (fun _ => rfl) = chunk accM (fwd c 2) 1 := acc1_eq c 1 2 rfl
@[sl_canon] theorem out0_2 (c : Dev nD) : (Memref.whole cc0_scratch1 : Memref sig .tc .vmem S1024x1024 .bf16).slice (Rect.unit (s := S1024x1024) (k0_off7 c 2#32) S32x512.size (k0_off7_inb c 1)) (fun _ => rfl) = chunk outM (bwd c 2) 0 := out0_eq c 1 2 rfl
@[sl_canon] theorem out1_2 (c : Dev nD) : (Memref.whole cc0_scratch1 : Memref sig .tc .vmem S1024x1024 .bf16).slice (Rect.unit (s := S1024x1024) (k0_off8 c 2#32) S32x512.size (k0_off8_inb c 1)) (fun _ => rfl) = chunk outM (bwd c 2) 1 := out1_eq c 1 2 rfl
@[sl_canon] theorem acc0_3 (c : Dev nD) : (Memref.whole cc0_scratch0 : Memref sig .tc .vmem S1024x1024 .bf16).slice (Rect.unit (s := S1024x1024) (k0_off2 c 3#32) S32x512.size (k0_off2_inb c 2)) (fun _ => rfl) = chunk accM (fwd c 3) 0 := acc0_eq c 2 3 rfl
@[sl_canon] theorem acc1_3 (c : Dev nD) : (Memref.whole cc0_scratch0 : Memref sig .tc .vmem S1024x1024 .bf16).slice (Rect.unit (s := S1024x1024) (k0_off4 c 3#32) S32x512.size (k0_off4_inb c 2)) (fun _ => rfl) = chunk accM (fwd c 3) 1 := acc1_eq c 2 3 rfl
@[sl_canon] theorem out0_3 (c : Dev nD) : (Memref.whole cc0_scratch1 : Memref sig .tc .vmem S1024x1024 .bf16).slice (Rect.unit (s := S1024x1024) (k0_off7 c 3#32) S32x512.size (k0_off7_inb c 2)) (fun _ => rfl) = chunk outM (bwd c 3) 0 := out0_eq c 2 3 rfl
@[sl_canon] theorem out1_3 (c : Dev nD) : (Memref.whole cc0_scratch1 : Memref sig .tc .vmem S1024x1024 .bf16).slice (Rect.unit (s := S1024x1024) (k0_off8 c 3#32) S32x512.size (k0_off8_inb c 2)) (fun _ => rfl) = chunk outM (bwd c 3) 1 := out1_eq c 2 3 rfl
@[sl_canon] theorem acc0_4 (c : Dev nD) : (Memref.whole cc0_scratch0 : Memref sig .tc .vmem S1024x1024 .bf16).slice (Rect.unit (s := S1024x1024) (k0_off2 c 4#32) S32x512.size (k0_off2_inb c 3)) (fun _ => rfl) = chunk accM (fwd c 4) 0 := acc0_eq c 3 4 rfl
@[sl_canon] theorem acc1_4 (c : Dev nD) : (Memref.whole cc0_scratch0 : Memref sig .tc .vmem S1024x1024 .bf16).slice (Rect.unit (s := S1024x1024) (k0_off4 c 4#32) S32x512.size (k0_off4_inb c 3)) (fun _ => rfl) = chunk accM (fwd c 4) 1 := acc1_eq c 3 4 rfl
@[sl_canon] theorem out0_4 (c : Dev nD) : (Memref.whole cc0_scratch1 : Memref sig .tc .vmem S1024x1024 .bf16).slice (Rect.unit (s := S1024x1024) (k0_off7 c 4#32) S32x512.size (k0_off7_inb c 3)) (fun _ => rfl) = chunk outM (bwd c 4) 0 := out0_eq c 3 4 rfl
@[sl_canon] theorem out1_4 (c : Dev nD) : (Memref.whole cc0_scratch1 : Memref sig .tc .vmem S1024x1024 .bf16).slice (Rect.unit (s := S1024x1024) (k0_off8 c 4#32) S32x512.size (k0_off8_inb c 3)) (fun _ => rfl) = chunk outM (bwd c 4) 1 := out1_eq c 3 4 rfl
@[sl_canon] theorem acc0_5 (c : Dev nD) : (Memref.whole cc0_scratch0 : Memref sig .tc .vmem S1024x1024 .bf16).slice (Rect.unit (s := S1024x1024) (k0_off2 c 5#32) S32x512.size (k0_off2_inb c 4)) (fun _ => rfl) = chunk accM (fwd c 5) 0 := acc0_eq c 4 5 rfl
@[sl_canon] theorem acc1_5 (c : Dev nD) : (Memref.whole cc0_scratch0 : Memref sig .tc .vmem S1024x1024 .bf16).slice (Rect.unit (s := S1024x1024) (k0_off4 c 5#32) S32x512.size (k0_off4_inb c 4)) (fun _ => rfl) = chunk accM (fwd c 5) 1 := acc1_eq c 4 5 rfl
@[sl_canon] theorem out0_5 (c : Dev nD) : (Memref.whole cc0_scratch1 : Memref sig .tc .vmem S1024x1024 .bf16).slice (Rect.unit (s := S1024x1024) (k0_off7 c 5#32) S32x512.size (k0_off7_inb c 4)) (fun _ => rfl) = chunk outM (bwd c 5) 0 := out0_eq c 4 5 rfl
@[sl_canon] theorem out1_5 (c : Dev nD) : (Memref.whole cc0_scratch1 : Memref sig .tc .vmem S1024x1024 .bf16).slice (Rect.unit (s := S1024x1024) (k0_off8 c 5#32) S32x512.size (k0_off8_inb c 4)) (fun _ => rfl) = chunk outM (bwd c 5) 1 := out1_eq c 4 5 rfl
@[sl_canon] theorem acc0_6 (c : Dev nD) : (Memref.whole cc0_scratch0 : Memref sig .tc .vmem S1024x1024 .bf16).slice (Rect.unit (s := S1024x1024) (k0_off2 c 6#32) S32x512.size (k0_off2_inb c 5)) (fun _ => rfl) = chunk accM (fwd c 6) 0 := acc0_eq c 5 6 rfl
@[sl_canon] theorem acc1_6 (c : Dev nD) : (Memref.whole cc0_scratch0 : Memref sig .tc .vmem S1024x1024 .bf16).slice (Rect.unit (s := S1024x1024) (k0_off4 c 6#32) S32x512.size (k0_off4_inb c 5)) (fun _ => rfl) = chunk accM (fwd c 6) 1 := acc1_eq c 5 6 rfl
@[sl_canon] theorem out0_6 (c : Dev nD) : (Memref.whole cc0_scratch1 : Memref sig .tc .vmem S1024x1024 .bf16).slice (Rect.unit (s := S1024x1024) (k0_off7 c 6#32) S32x512.size (k0_off7_inb c 5)) (fun _ => rfl) = chunk outM (bwd c 6) 0 := out0_eq c 5 6 rfl
@[sl_canon] theorem out1_6 (c : Dev nD) : (Memref.whole cc0_scratch1 : Memref sig .tc .vmem S1024x1024 .bf16).slice (Rect.unit (s := S1024x1024) (k0_off8 c 6#32) S32x512.size (k0_off8_inb c 5)) (fun _ => rfl) = chunk outM (bwd c 6) 1 := out1_eq c 5 6 rfl
@[sl_canon] theorem acc0_7 (c : Dev nD) : (Memref.whole cc0_scratch0 : Memref sig .tc .vmem S1024x1024 .bf16).slice (Rect.unit (s := S1024x1024) (k0_off2 c 7#32) S32x512.size (k0_off2_inb c 6)) (fun _ => rfl) = chunk accM (fwd c 7) 0 := acc0_eq c 6 7 rfl
@[sl_canon] theorem acc1_7 (c : Dev nD) : (Memref.whole cc0_scratch0 : Memref sig .tc .vmem S1024x1024 .bf16).slice (Rect.unit (s := S1024x1024) (k0_off4 c 7#32) S32x512.size (k0_off4_inb c 6)) (fun _ => rfl) = chunk accM (fwd c 7) 1 := acc1_eq c 6 7 rfl
@[sl_canon] theorem out0_7 (c : Dev nD) : (Memref.whole cc0_scratch1 : Memref sig .tc .vmem S1024x1024 .bf16).slice (Rect.unit (s := S1024x1024) (k0_off7 c 7#32) S32x512.size (k0_off7_inb c 6)) (fun _ => rfl) = chunk outM (bwd c 7) 0 := out0_eq c 6 7 rfl
@[sl_canon] theorem out1_7 (c : Dev nD) : (Memref.whole cc0_scratch1 : Memref sig .tc .vmem S1024x1024 .bf16).slice (Rect.unit (s := S1024x1024) (k0_off8 c 7#32) S32x512.size (k0_off8_inb c 6)) (fun _ => rfl) = chunk outM (bwd c 7) 1 := out1_eq c 6 7 rfl
@[sl_canon] theorem acc0_8 (c : Dev nD) : (Memref.whole cc0_scratch0 : Memref sig .tc .vmem S1024x1024 .bf16).slice (Rect.unit (s := S1024x1024) (k0_off2 c 8#32) S32x512.size (k0_off2_inb c 7)) (fun _ => rfl) = chunk accM (fwd c 8) 0 := acc0_eq c 7 8 rfl
@[sl_canon] theorem acc1_8 (c : Dev nD) : (Memref.whole cc0_scratch0 : Memref sig .tc .vmem S1024x1024 .bf16).slice (Rect.unit (s := S1024x1024) (k0_off4 c 8#32) S32x512.size (k0_off4_inb c 7)) (fun _ => rfl) = chunk accM (fwd c 8) 1 := acc1_eq c 7 8 rfl
@[sl_canon] theorem out0_8 (c : Dev nD) : (Memref.whole cc0_scratch1 : Memref sig .tc .vmem S1024x1024 .bf16).slice (Rect.unit (s := S1024x1024) (k0_off7 c 8#32) S32x512.size (k0_off7_inb c 7)) (fun _ => rfl) = chunk outM (bwd c 8) 0 := out0_eq c 7 8 rfl
@[sl_canon] theorem out1_8 (c : Dev nD) : (Memref.whole cc0_scratch1 : Memref sig .tc .vmem S1024x1024 .bf16).slice (Rect.unit (s := S1024x1024) (k0_off8 c 8#32) S32x512.size (k0_off8_inb c 7)) (fun _ => rfl) = chunk outM (bwd c 8) 1 := out1_eq c 7 8 rfl
@[sl_canon] theorem acc0_9 (c : Dev nD) : (Memref.whole cc0_scratch0 : Memref sig .tc .vmem S1024x1024 .bf16).slice (Rect.unit (s := S1024x1024) (k0_off2 c 9#32) S32x512.size (k0_off2_inb c 8)) (fun _ => rfl) = chunk accM (fwd c 9) 0 := acc0_eq c 8 9 rfl
@[sl_canon] theorem acc1_9 (c : Dev nD) : (Memref.whole cc0_scratch0 : Memref sig .tc .vmem S1024x1024 .bf16).slice (Rect.unit (s := S1024x1024) (k0_off4 c 9#32) S32x512.size (k0_off4_inb c 8)) (fun _ => rfl) = chunk accM (fwd c 9) 1 := acc1_eq c 8 9 rfl
@[sl_canon] theorem out0_9 (c : Dev nD) : (Memref.whole cc0_scratch1 : Memref sig .tc .vmem S1024x1024 .bf16).slice (Rect.unit (s := S1024x1024) (k0_off7 c 9#32) S32x512.size (k0_off7_inb c 8)) (fun _ => rfl) = chunk outM (bwd c 9) 0 := out0_eq c 8 9 rfl
@[sl_canon] theorem out1_9 (c : Dev nD) : (Memref.whole cc0_scratch1 : Memref sig .tc .vmem S1024x1024 .bf16).slice (Rect.unit (s := S1024x1024) (k0_off8 c 9#32) S32x512.size (k0_off8_inb c 8)) (fun _ => rfl) = chunk outM (bwd c 9) 1 := out1_eq c 8 9 rfl
@[sl_canon] theorem acc0_10 (c : Dev nD) : (Memref.whole cc0_scratch0 : Memref sig .tc .vmem S1024x1024 .bf16).slice (Rect.unit (s := S1024x1024) (k0_off2 c 10#32) S32x512.size (k0_off2_inb c 9)) (fun _ => rfl) = chunk accM (fwd c 10) 0 := acc0_eq c 9 10 rfl
@[sl_canon] theorem acc1_10 (c : Dev nD) : (Memref.whole cc0_scratch0 : Memref sig .tc .vmem S1024x1024 .bf16).slice (Rect.unit (s := S1024x1024) (k0_off4 c 10#32) S32x512.size (k0_off4_inb c 9)) (fun _ => rfl) = chunk accM (fwd c 10) 1 := acc1_eq c 9 10 rfl
@[sl_canon] theorem out0_10 (c : Dev nD) : (Memref.whole cc0_scratch1 : Memref sig .tc .vmem S1024x1024 .bf16).slice (Rect.unit (s := S1024x1024) (k0_off7 c 10#32) S32x512.size (k0_off7_inb c 9)) (fun _ => rfl) = chunk outM (bwd c 10) 0 := out0_eq c 9 10 rfl
@[sl_canon] theorem out1_10 (c : Dev nD) : (Memref.whole cc0_scratch1 : Memref sig .tc .vmem S1024x1024 .bf16).slice (Rect.unit (s := S1024x1024) (k0_off8 c 10#32) S32x512.size (k0_off8_inb c 9)) (fun _ => rfl) = chunk outM (bwd c 10) 1 := out1_eq c 9 10 rfl
@[sl_canon] theorem acc0_11 (c : Dev nD) : (Memref.whole cc0_scratch0 : Memref sig .tc .vmem S1024x1024 .bf16).slice (Rect.unit (s := S1024x1024) (k0_off2 c 11#32) S32x512.size (k0_off2_inb c 10)) (fun _ => rfl) = chunk accM (fwd c 11) 0 := acc0_eq c 10 11 rfl
@[sl_canon] theorem acc1_11 (c : Dev nD) : (Memref.whole cc0_scratch0 : Memref sig .tc .vmem S1024x1024 .bf16).slice (Rect.unit (s := S1024x1024) (k0_off4 c 11#32) S32x512.size (k0_off4_inb c 10)) (fun _ => rfl) = chunk accM (fwd c 11) 1 := acc1_eq c 10 11 rfl
@[sl_canon] theorem out0_11 (c : Dev nD) : (Memref.whole cc0_scratch1 : Memref sig .tc .vmem S1024x1024 .bf16).slice (Rect.unit (s := S1024x1024) (k0_off7 c 11#32) S32x512.size (k0_off7_inb c 10)) (fun _ => rfl) = chunk outM (bwd c 11) 0 := out0_eq c 10 11 rfl
@[sl_canon] theorem out1_11 (c : Dev nD) : (Memref.whole cc0_scratch1 : Memref sig .tc .vmem S1024x1024 .bf16).slice (Rect.unit (s := S1024x1024) (k0_off8 c 11#32) S32x512.size (k0_off8_inb c 10)) (fun _ => rfl) = chunk outM (bwd c 11) 1 := out1_eq c 10 11 rfl
@[sl_canon] theorem acc0_12 (c : Dev nD) : (Memref.whole cc0_scratch0 : Memref sig .tc .vmem S1024x1024 .bf16).slice (Rect.unit (s := S1024x1024) (k0_off2 c 12#32) S32x512.size (k0_off2_inb c 11)) (fun _ => rfl) = chunk accM (fwd c 12) 0 := acc0_eq c 11 12 rfl
@[sl_canon] theorem acc1_12 (c : Dev nD) : (Memref.whole cc0_scratch0 : Memref sig .tc .vmem S1024x1024 .bf16).slice (Rect.unit (s := S1024x1024) (k0_off4 c 12#32) S32x512.size (k0_off4_inb c 11)) (fun _ => rfl) = chunk accM (fwd c 12) 1 := acc1_eq c 11 12 rfl
@[sl_canon] theorem out0_12 (c : Dev nD) : (Memref.whole cc0_scratch1 : Memref sig .tc .vmem S1024x1024 .bf16).slice (Rect.unit (s := S1024x1024) (k0_off7 c 12#32) S32x512.size (k0_off7_inb c 11)) (fun _ => rfl) = chunk outM (bwd c 12) 0 := out0_eq c 11 12 rfl
@[sl_canon] theorem out1_12 (c : Dev nD) : (Memref.whole cc0_scratch1 : Memref sig .tc .vmem S1024x1024 .bf16).slice (Rect.unit (s := S1024x1024) (k0_off8 c 12#32) S32x512.size (k0_off8_inb c 11)) (fun _ => rfl) = chunk outM (bwd c 12) 1 := out1_eq c 11 12 rfl
@[sl_canon] theorem acc0_13 (c : Dev nD) : (Memref.whole cc0_scratch0 : Memref sig .tc .vmem S1024x1024 .bf16).slice (Rect.unit (s := S1024x1024) (k0_off2 c 13#32) S32x512.size (k0_off2_inb c 12)) (fun _ => rfl) = chunk accM (fwd c 13) 0 := acc0_eq c 12 13 rfl
@[sl_canon] theorem acc1_13 (c : Dev nD) : (Memref.whole cc0_scratch0 : Memref sig .tc .vmem S1024x1024 .bf16).slice (Rect.unit (s := S1024x1024) (k0_off4 c 13#32) S32x512.size (k0_off4_inb c 12)) (fun _ => rfl) = chunk accM (fwd c 13) 1 := acc1_eq c 12 13 rfl
@[sl_canon] theorem out0_13 (c : Dev nD) : (Memref.whole cc0_scratch1 : Memref sig .tc .vmem S1024x1024 .bf16).slice (Rect.unit (s := S1024x1024) (k0_off7 c 13#32) S32x512.size (k0_off7_inb c 12)) (fun _ => rfl) = chunk outM (bwd c 13) 0 := out0_eq c 12 13 rfl
@[sl_canon] theorem out1_13 (c : Dev nD) : (Memref.whole cc0_scratch1 : Memref sig .tc .vmem S1024x1024 .bf16).slice (Rect.unit (s := S1024x1024) (k0_off8 c 13#32) S32x512.size (k0_off8_inb c 12)) (fun _ => rfl) = chunk outM (bwd c 13) 1 := out1_eq c 12 13 rfl
@[sl_canon] theorem acc0_14 (c : Dev nD) : (Memref.whole cc0_scratch0 : Memref sig .tc .vmem S1024x1024 .bf16).slice (Rect.unit (s := S1024x1024) (k0_off2 c 14#32) S32x512.size (k0_off2_inb c 13)) (fun _ => rfl) = chunk accM (fwd c 14) 0 := acc0_eq c 13 14 rfl
@[sl_canon] theorem acc1_14 (c : Dev nD) : (Memref.whole cc0_scratch0 : Memref sig .tc .vmem S1024x1024 .bf16).slice (Rect.unit (s := S1024x1024) (k0_off4 c 14#32) S32x512.size (k0_off4_inb c 13)) (fun _ => rfl) = chunk accM (fwd c 14) 1 := acc1_eq c 13 14 rfl
@[sl_canon] theorem out0_14 (c : Dev nD) : (Memref.whole cc0_scratch1 : Memref sig .tc .vmem S1024x1024 .bf16).slice (Rect.unit (s := S1024x1024) (k0_off7 c 14#32) S32x512.size (k0_off7_inb c 13)) (fun _ => rfl) = chunk outM (bwd c 14) 0 := out0_eq c 13 14 rfl
@[sl_canon] theorem out1_14 (c : Dev nD) : (Memref.whole cc0_scratch1 : Memref sig .tc .vmem S1024x1024 .bf16).slice (Rect.unit (s := S1024x1024) (k0_off8 c 14#32) S32x512.size (k0_off8_inb c 13)) (fun _ => rfl) = chunk outM (bwd c 14) 1 := out1_eq c 13 14 rfl
@[sl_canon] theorem acc0_15 (c : Dev nD) : (Memref.whole cc0_scratch0 : Memref sig .tc .vmem S1024x1024 .bf16).slice (Rect.unit (s := S1024x1024) (k0_off2 c 15#32) S32x512.size (k0_off2_inb c 14)) (fun _ => rfl) = chunk accM (fwd c 15) 0 := acc0_eq c 14 15 rfl
@[sl_canon] theorem acc1_15 (c : Dev nD) : (Memref.whole cc0_scratch0 : Memref sig .tc .vmem S1024x1024 .bf16).slice (Rect.unit (s := S1024x1024) (k0_off4 c 15#32) S32x512.size (k0_off4_inb c 14)) (fun _ => rfl) = chunk accM (fwd c 15) 1 := acc1_eq c 14 15 rfl
@[sl_canon] theorem out0_15 (c : Dev nD) : (Memref.whole cc0_scratch1 : Memref sig .tc .vmem S1024x1024 .bf16).slice (Rect.unit (s := S1024x1024) (k0_off7 c 15#32) S32x512.size (k0_off7_inb c 14)) (fun _ => rfl) = chunk outM (bwd c 15) 0 := out0_eq c 14 15 rfl
@[sl_canon] theorem out1_15 (c : Dev nD) : (Memref.whole cc0_scratch1 : Memref sig .tc .vmem S1024x1024 .bf16).slice (Rect.unit (s := S1024x1024) (k0_off8 c 15#32) S32x512.size (k0_off8_inb c 14)) (fun _ => rfl) = chunk outM (bwd c 15) 1 := out1_eq c 14 15 rfl
@[sl_canon] theorem acc0_16 (c : Dev nD) : (Memref.whole cc0_scratch0 : Memref sig .tc .vmem S1024x1024 .bf16).slice (Rect.unit (s := S1024x1024) (k0_off2 c 16#32) S32x512.size (k0_off2_inb c 15)) (fun _ => rfl) = chunk accM (fwd c 16) 0 := acc0_eq c 15 16 rfl
@[sl_canon] theorem acc1_16 (c : Dev nD) : (Memref.whole cc0_scratch0 : Memref sig .tc .vmem S1024x1024 .bf16).slice (Rect.unit (s := S1024x1024) (k0_off4 c 16#32) S32x512.size (k0_off4_inb c 15)) (fun _ => rfl) = chunk accM (fwd c 16) 1 := acc1_eq c 15 16 rfl
@[sl_canon] theorem out0_16 (c : Dev nD) : (Memref.whole cc0_scratch1 : Memref sig .tc .vmem S1024x1024 .bf16).slice (Rect.unit (s := S1024x1024) (k0_off7 c 16#32) S32x512.size (k0_off7_inb c 15)) (fun _ => rfl) = chunk outM (bwd c 16) 0 := out0_eq c 15 16 rfl
@[sl_canon] theorem out1_16 (c : Dev nD) : (Memref.whole cc0_scratch1 : Memref sig .tc .vmem S1024x1024 .bf16).slice (Rect.unit (s := S1024x1024) (k0_off8 c 16#32) S32x512.size (k0_off8_inb c 15)) (fun _ => rfl) = chunk outM (bwd c 16) 1 := out1_eq c 15 16 rfl
@[sl_canon] theorem acc0_17 (c : Dev nD) : (Memref.whole cc0_scratch0 : Memref sig .tc .vmem S1024x1024 .bf16).slice (Rect.unit (s := S1024x1024) (k0_off2 c 17#32) S32x512.size (k0_off2_inb c 16)) (fun _ => rfl) = chunk accM (fwd c 17) 0 := acc0_eq c 16 17 rfl
@[sl_canon] theorem acc1_17 (c : Dev nD) : (Memref.whole cc0_scratch0 : Memref sig .tc .vmem S1024x1024 .bf16).slice (Rect.unit (s := S1024x1024) (k0_off4 c 17#32) S32x512.size (k0_off4_inb c 16)) (fun _ => rfl) = chunk accM (fwd c 17) 1 := acc1_eq c 16 17 rfl
@[sl_canon] theorem out0_17 (c : Dev nD) : (Memref.whole cc0_scratch1 : Memref sig .tc .vmem S1024x1024 .bf16).slice (Rect.unit (s := S1024x1024) (k0_off7 c 17#32) S32x512.size (k0_off7_inb c 16)) (fun _ => rfl) = chunk outM (bwd c 17) 0 := out0_eq c 16 17 rfl
@[sl_canon] theorem out1_17 (c : Dev nD) : (Memref.whole cc0_scratch1 : Memref sig .tc .vmem S1024x1024 .bf16).slice (Rect.unit (s := S1024x1024) (k0_off8 c 17#32) S32x512.size (k0_off8_inb c 16)) (fun _ => rfl) = chunk outM (bwd c 17) 1 := out1_eq c 16 17 rfl
@[sl_canon] theorem acc0_18 (c : Dev nD) : (Memref.whole cc0_scratch0 : Memref sig .tc .vmem S1024x1024 .bf16).slice (Rect.unit (s := S1024x1024) (k0_off2 c 18#32) S32x512.size (k0_off2_inb c 17)) (fun _ => rfl) = chunk accM (fwd c 18) 0 := acc0_eq c 17 18 rfl
@[sl_canon] theorem acc1_18 (c : Dev nD) : (Memref.whole cc0_scratch0 : Memref sig .tc .vmem S1024x1024 .bf16).slice (Rect.unit (s := S1024x1024) (k0_off4 c 18#32) S32x512.size (k0_off4_inb c 17)) (fun _ => rfl) = chunk accM (fwd c 18) 1 := acc1_eq c 17 18 rfl
@[sl_canon] theorem out0_18 (c : Dev nD) : (Memref.whole cc0_scratch1 : Memref sig .tc .vmem S1024x1024 .bf16).slice (Rect.unit (s := S1024x1024) (k0_off7 c 18#32) S32x512.size (k0_off7_inb c 17)) (fun _ => rfl) = chunk outM (bwd c 18) 0 := out0_eq c 17 18 rfl
@[sl_canon] theorem out1_18 (c : Dev nD) : (Memref.whole cc0_scratch1 : Memref sig .tc .vmem S1024x1024 .bf16).slice (Rect.unit (s := S1024x1024) (k0_off8 c 18#32) S32x512.size (k0_off8_inb c 17)) (fun _ => rfl) = chunk outM (bwd c 18) 1 := out1_eq c 17 18 rfl
@[sl_canon] theorem acc0_19 (c : Dev nD) : (Memref.whole cc0_scratch0 : Memref sig .tc .vmem S1024x1024 .bf16).slice (Rect.unit (s := S1024x1024) (k0_off2 c 19#32) S32x512.size (k0_off2_inb c 18)) (fun _ => rfl) = chunk accM (fwd c 19) 0 := acc0_eq c 18 19 rfl
@[sl_canon] theorem acc1_19 (c : Dev nD) : (Memref.whole cc0_scratch0 : Memref sig .tc .vmem S1024x1024 .bf16).slice (Rect.unit (s := S1024x1024) (k0_off4 c 19#32) S32x512.size (k0_off4_inb c 18)) (fun _ => rfl) = chunk accM (fwd c 19) 1 := acc1_eq c 18 19 rfl
@[sl_canon] theorem out0_19 (c : Dev nD) : (Memref.whole cc0_scratch1 : Memref sig .tc .vmem S1024x1024 .bf16).slice (Rect.unit (s := S1024x1024) (k0_off7 c 19#32) S32x512.size (k0_off7_inb c 18)) (fun _ => rfl) = chunk outM (bwd c 19) 0 := out0_eq c 18 19 rfl
@[sl_canon] theorem out1_19 (c : Dev nD) : (Memref.whole cc0_scratch1 : Memref sig .tc .vmem S1024x1024 .bf16).slice (Rect.unit (s := S1024x1024) (k0_off8 c 19#32) S32x512.size (k0_off8_inb c 18)) (fun _ => rfl) = chunk outM (bwd c 19) 1 := out1_eq c 18 19 rfl
@[sl_canon] theorem acc0_20 (c : Dev nD) : (Memref.whole cc0_scratch0 : Memref sig .tc .vmem S1024x1024 .bf16).slice (Rect.unit (s := S1024x1024) (k0_off2 c 20#32) S32x512.size (k0_off2_inb c 19)) (fun _ => rfl) = chunk accM (fwd c 20) 0 := acc0_eq c 19 20 rfl
@[sl_canon] theorem acc1_20 (c : Dev nD) : (Memref.whole cc0_scratch0 : Memref sig .tc .vmem S1024x1024 .bf16).slice (Rect.unit (s := S1024x1024) (k0_off4 c 20#32) S32x512.size (k0_off4_inb c 19)) (fun _ => rfl) = chunk accM (fwd c 20) 1 := acc1_eq c 19 20 rfl
@[sl_canon] theorem out0_20 (c : Dev nD) : (Memref.whole cc0_scratch1 : Memref sig .tc .vmem S1024x1024 .bf16).slice (Rect.unit (s := S1024x1024) (k0_off7 c 20#32) S32x512.size (k0_off7_inb c 19)) (fun _ => rfl) = chunk outM (bwd c 20) 0 := out0_eq c 19 20 rfl
@[sl_canon] theorem out1_20 (c : Dev nD) : (Memref.whole cc0_scratch1 : Memref sig .tc .vmem S1024x1024 .bf16).slice (Rect.unit (s := S1024x1024) (k0_off8 c 20#32) S32x512.size (k0_off8_inb c 19)) (fun _ => rfl) = chunk outM (bwd c 20) 1 := out1_eq c 19 20 rfl
@[sl_canon] theorem acc0_21 (c : Dev nD) : (Memref.whole cc0_scratch0 : Memref sig .tc .vmem S1024x1024 .bf16).slice (Rect.unit (s := S1024x1024) (k0_off2 c 21#32) S32x512.size (k0_off2_inb c 20)) (fun _ => rfl) = chunk accM (fwd c 21) 0 := acc0_eq c 20 21 rfl
@[sl_canon] theorem acc1_21 (c : Dev nD) : (Memref.whole cc0_scratch0 : Memref sig .tc .vmem S1024x1024 .bf16).slice (Rect.unit (s := S1024x1024) (k0_off4 c 21#32) S32x512.size (k0_off4_inb c 20)) (fun _ => rfl) = chunk accM (fwd c 21) 1 := acc1_eq c 20 21 rfl
@[sl_canon] theorem out0_21 (c : Dev nD) : (Memref.whole cc0_scratch1 : Memref sig .tc .vmem S1024x1024 .bf16).slice (Rect.unit (s := S1024x1024) (k0_off7 c 21#32) S32x512.size (k0_off7_inb c 20)) (fun _ => rfl) = chunk outM (bwd c 21) 0 := out0_eq c 20 21 rfl
@[sl_canon] theorem out1_21 (c : Dev nD) : (Memref.whole cc0_scratch1 : Memref sig .tc .vmem S1024x1024 .bf16).slice (Rect.unit (s := S1024x1024) (k0_off8 c 21#32) S32x512.size (k0_off8_inb c 20)) (fun _ => rfl) = chunk outM (bwd c 21) 1 := out1_eq c 20 21 rfl
@[sl_canon] theorem acc0_22 (c : Dev nD) : (Memref.whole cc0_scratch0 : Memref sig .tc .vmem S1024x1024 .bf16).slice (Rect.unit (s := S1024x1024) (k0_off2 c 22#32) S32x512.size (k0_off2_inb c 21)) (fun _ => rfl) = chunk accM (fwd c 22) 0 := acc0_eq c 21 22 rfl
@[sl_canon] theorem acc1_22 (c : Dev nD) : (Memref.whole cc0_scratch0 : Memref sig .tc .vmem S1024x1024 .bf16).slice (Rect.unit (s := S1024x1024) (k0_off4 c 22#32) S32x512.size (k0_off4_inb c 21)) (fun _ => rfl) = chunk accM (fwd c 22) 1 := acc1_eq c 21 22 rfl
@[sl_canon] theorem out0_22 (c : Dev nD) : (Memref.whole cc0_scratch1 : Memref sig .tc .vmem S1024x1024 .bf16).slice (Rect.unit (s := S1024x1024) (k0_off7 c 22#32) S32x512.size (k0_off7_inb c 21)) (fun _ => rfl) = chunk outM (bwd c 22) 0 := out0_eq c 21 22 rfl
@[sl_canon] theorem out1_22 (c : Dev nD) : (Memref.whole cc0_scratch1 : Memref sig .tc .vmem S1024x1024 .bf16).slice (Rect.unit (s := S1024x1024) (k0_off8 c 22#32) S32x512.size (k0_off8_inb c 21)) (fun _ => rfl) = chunk outM (bwd c 22) 1 := out1_eq c 21 22 rfl
@[sl_canon] theorem acc0_23 (c : Dev nD) : (Memref.whole cc0_scratch0 : Memref sig .tc .vmem S1024x1024 .bf16).slice (Rect.unit (s := S1024x1024) (k0_off2 c 23#32) S32x512.size (k0_off2_inb c 22)) (fun _ => rfl) = chunk accM (fwd c 23) 0 := acc0_eq c 22 23 rfl
@[sl_canon] theorem acc1_23 (c : Dev nD) : (Memref.whole cc0_scratch0 : Memref sig .tc .vmem S1024x1024 .bf16).slice (Rect.unit (s := S1024x1024) (k0_off4 c 23#32) S32x512.size (k0_off4_inb c 22)) (fun _ => rfl) = chunk accM (fwd c 23) 1 := acc1_eq c 22 23 rfl
@[sl_canon] theorem out0_23 (c : Dev nD) : (Memref.whole cc0_scratch1 : Memref sig .tc .vmem S1024x1024 .bf16).slice (Rect.unit (s := S1024x1024) (k0_off7 c 23#32) S32x512.size (k0_off7_inb c 22)) (fun _ => rfl) = chunk outM (bwd c 23) 0 := out0_eq c 22 23 rfl
@[sl_canon] theorem out1_23 (c : Dev nD) : (Memref.whole cc0_scratch1 : Memref sig .tc .vmem S1024x1024 .bf16).slice (Rect.unit (s := S1024x1024) (k0_off8 c 23#32) S32x512.size (k0_off8_inb c 22)) (fun _ => rfl) = chunk outM (bwd c 23) 1 := out1_eq c 22 23 rfl
@[sl_canon] theorem acc0_24 (c : Dev nD) : (Memref.whole cc0_scratch0 : Memref sig .tc .vmem S1024x1024 .bf16).slice (Rect.unit (s := S1024x1024) (k0_off2 c 24#32) S32x512.size (k0_off2_inb c 23)) (fun _ => rfl) = chunk accM (fwd c 24) 0 := acc0_eq c 23 24 rfl
@[sl_canon] theorem acc1_24 (c : Dev nD) : (Memref.whole cc0_scratch0 : Memref sig .tc .vmem S1024x1024 .bf16).slice (Rect.unit (s := S1024x1024) (k0_off4 c 24#32) S32x512.size (k0_off4_inb c 23)) (fun _ => rfl) = chunk accM (fwd c 24) 1 := acc1_eq c 23 24 rfl
@[sl_canon] theorem out0_24 (c : Dev nD) : (Memref.whole cc0_scratch1 : Memref sig .tc .vmem S1024x1024 .bf16).slice (Rect.unit (s := S1024x1024) (k0_off7 c 24#32) S32x512.size (k0_off7_inb c 23)) (fun _ => rfl) = chunk outM (bwd c 24) 0 := out0_eq c 23 24 rfl
@[sl_canon] theorem out1_24 (c : Dev nD) : (Memref.whole cc0_scratch1 : Memref sig .tc .vmem S1024x1024 .bf16).slice (Rect.unit (s := S1024x1024) (k0_off8 c 24#32) S32x512.size (k0_off8_inb c 23)) (fun _ => rfl) = chunk outM (bwd c 24) 1 := out1_eq c 23 24 rfl
@[sl_canon] theorem acc0_25 (c : Dev nD) : (Memref.whole cc0_scratch0 : Memref sig .tc .vmem S1024x1024 .bf16).slice (Rect.unit (s := S1024x1024) (k0_off2 c 25#32) S32x512.size (k0_off2_inb c 24)) (fun _ => rfl) = chunk accM (fwd c 25) 0 := acc0_eq c 24 25 rfl
@[sl_canon] theorem acc1_25 (c : Dev nD) : (Memref.whole cc0_scratch0 : Memref sig .tc .vmem S1024x1024 .bf16).slice (Rect.unit (s := S1024x1024) (k0_off4 c 25#32) S32x512.size (k0_off4_inb c 24)) (fun _ => rfl) = chunk accM (fwd c 25) 1 := acc1_eq c 24 25 rfl
@[sl_canon] theorem out0_25 (c : Dev nD) : (Memref.whole cc0_scratch1 : Memref sig .tc .vmem S1024x1024 .bf16).slice (Rect.unit (s := S1024x1024) (k0_off7 c 25#32) S32x512.size (k0_off7_inb c 24)) (fun _ => rfl) = chunk outM (bwd c 25) 0 := out0_eq c 24 25 rfl
@[sl_canon] theorem out1_25 (c : Dev nD) : (Memref.whole cc0_scratch1 : Memref sig .tc .vmem S1024x1024 .bf16).slice (Rect.unit (s := S1024x1024) (k0_off8 c 25#32) S32x512.size (k0_off8_inb c 24)) (fun _ => rfl) = chunk outM (bwd c 25) 1 := out1_eq c 24 25 rfl
@[sl_canon] theorem acc0_26 (c : Dev nD) : (Memref.whole cc0_scratch0 : Memref sig .tc .vmem S1024x1024 .bf16).slice (Rect.unit (s := S1024x1024) (k0_off2 c 26#32) S32x512.size (k0_off2_inb c 25)) (fun _ => rfl) = chunk accM (fwd c 26) 0 := acc0_eq c 25 26 rfl
@[sl_canon] theorem acc1_26 (c : Dev nD) : (Memref.whole cc0_scratch0 : Memref sig .tc .vmem S1024x1024 .bf16).slice (Rect.unit (s := S1024x1024) (k0_off4 c 26#32) S32x512.size (k0_off4_inb c 25)) (fun _ => rfl) = chunk accM (fwd c 26) 1 := acc1_eq c 25 26 rfl
@[sl_canon] theorem out0_26 (c : Dev nD) : (Memref.whole cc0_scratch1 : Memref sig .tc .vmem S1024x1024 .bf16).slice (Rect.unit (s := S1024x1024) (k0_off7 c 26#32) S32x512.size (k0_off7_inb c 25)) (fun _ => rfl) = chunk outM (bwd c 26) 0 := out0_eq c 25 26 rfl
@[sl_canon] theorem out1_26 (c : Dev nD) : (Memref.whole cc0_scratch1 : Memref sig .tc .vmem S1024x1024 .bf16).slice (Rect.unit (s := S1024x1024) (k0_off8 c 26#32) S32x512.size (k0_off8_inb c 25)) (fun _ => rfl) = chunk outM (bwd c 26) 1 := out1_eq c 25 26 rfl
@[sl_canon] theorem acc0_27 (c : Dev nD) : (Memref.whole cc0_scratch0 : Memref sig .tc .vmem S1024x1024 .bf16).slice (Rect.unit (s := S1024x1024) (k0_off2 c 27#32) S32x512.size (k0_off2_inb c 26)) (fun _ => rfl) = chunk accM (fwd c 27) 0 := acc0_eq c 26 27 rfl
@[sl_canon] theorem acc1_27 (c : Dev nD) : (Memref.whole cc0_scratch0 : Memref sig .tc .vmem S1024x1024 .bf16).slice (Rect.unit (s := S1024x1024) (k0_off4 c 27#32) S32x512.size (k0_off4_inb c 26)) (fun _ => rfl) = chunk accM (fwd c 27) 1 := acc1_eq c 26 27 rfl
@[sl_canon] theorem out0_27 (c : Dev nD) : (Memref.whole cc0_scratch1 : Memref sig .tc .vmem S1024x1024 .bf16).slice (Rect.unit (s := S1024x1024) (k0_off7 c 27#32) S32x512.size (k0_off7_inb c 26)) (fun _ => rfl) = chunk outM (bwd c 27) 0 := out0_eq c 26 27 rfl
@[sl_canon] theorem out1_27 (c : Dev nD) : (Memref.whole cc0_scratch1 : Memref sig .tc .vmem S1024x1024 .bf16).slice (Rect.unit (s := S1024x1024) (k0_off8 c 27#32) S32x512.size (k0_off8_inb c 26)) (fun _ => rfl) = chunk outM (bwd c 27) 1 := out1_eq c 26 27 rfl
@[sl_canon] theorem acc0_28 (c : Dev nD) : (Memref.whole cc0_scratch0 : Memref sig .tc .vmem S1024x1024 .bf16).slice (Rect.unit (s := S1024x1024) (k0_off2 c 28#32) S32x512.size (k0_off2_inb c 27)) (fun _ => rfl) = chunk accM (fwd c 28) 0 := acc0_eq c 27 28 rfl
@[sl_canon] theorem acc1_28 (c : Dev nD) : (Memref.whole cc0_scratch0 : Memref sig .tc .vmem S1024x1024 .bf16).slice (Rect.unit (s := S1024x1024) (k0_off4 c 28#32) S32x512.size (k0_off4_inb c 27)) (fun _ => rfl) = chunk accM (fwd c 28) 1 := acc1_eq c 27 28 rfl
@[sl_canon] theorem out0_28 (c : Dev nD) : (Memref.whole cc0_scratch1 : Memref sig .tc .vmem S1024x1024 .bf16).slice (Rect.unit (s := S1024x1024) (k0_off7 c 28#32) S32x512.size (k0_off7_inb c 27)) (fun _ => rfl) = chunk outM (bwd c 28) 0 := out0_eq c 27 28 rfl
@[sl_canon] theorem out1_28 (c : Dev nD) : (Memref.whole cc0_scratch1 : Memref sig .tc .vmem S1024x1024 .bf16).slice (Rect.unit (s := S1024x1024) (k0_off8 c 28#32) S32x512.size (k0_off8_inb c 27)) (fun _ => rfl) = chunk outM (bwd c 28) 1 := out1_eq c 27 28 rfl
@[sl_canon] theorem acc0_29 (c : Dev nD) : (Memref.whole cc0_scratch0 : Memref sig .tc .vmem S1024x1024 .bf16).slice (Rect.unit (s := S1024x1024) (k0_off2 c 29#32) S32x512.size (k0_off2_inb c 28)) (fun _ => rfl) = chunk accM (fwd c 29) 0 := acc0_eq c 28 29 rfl
@[sl_canon] theorem acc1_29 (c : Dev nD) : (Memref.whole cc0_scratch0 : Memref sig .tc .vmem S1024x1024 .bf16).slice (Rect.unit (s := S1024x1024) (k0_off4 c 29#32) S32x512.size (k0_off4_inb c 28)) (fun _ => rfl) = chunk accM (fwd c 29) 1 := acc1_eq c 28 29 rfl
@[sl_canon] theorem out0_29 (c : Dev nD) : (Memref.whole cc0_scratch1 : Memref sig .tc .vmem S1024x1024 .bf16).slice (Rect.unit (s := S1024x1024) (k0_off7 c 29#32) S32x512.size (k0_off7_inb c 28)) (fun _ => rfl) = chunk outM (bwd c 29) 0 := out0_eq c 28 29 rfl
@[sl_canon] theorem out1_29 (c : Dev nD) : (Memref.whole cc0_scratch1 : Memref sig .tc .vmem S1024x1024 .bf16).slice (Rect.unit (s := S1024x1024) (k0_off8 c 29#32) S32x512.size (k0_off8_inb c 28)) (fun _ => rfl) = chunk outM (bwd c 29) 1 := out1_eq c 28 29 rfl
@[sl_canon] theorem acc0_30 (c : Dev nD) : (Memref.whole cc0_scratch0 : Memref sig .tc .vmem S1024x1024 .bf16).slice (Rect.unit (s := S1024x1024) (k0_off2 c 30#32) S32x512.size (k0_off2_inb c 29)) (fun _ => rfl) = chunk accM (fwd c 30) 0 := acc0_eq c 29 30 rfl
@[sl_canon] theorem acc1_30 (c : Dev nD) : (Memref.whole cc0_scratch0 : Memref sig .tc .vmem S1024x1024 .bf16).slice (Rect.unit (s := S1024x1024) (k0_off4 c 30#32) S32x512.size (k0_off4_inb c 29)) (fun _ => rfl) = chunk accM (fwd c 30) 1 := acc1_eq c 29 30 rfl
@[sl_canon] theorem out0_30 (c : Dev nD) : (Memref.whole cc0_scratch1 : Memref sig .tc .vmem S1024x1024 .bf16).slice (Rect.unit (s := S1024x1024) (k0_off7 c 30#32) S32x512.size (k0_off7_inb c 29)) (fun _ => rfl) = chunk outM (bwd c 30) 0 := out0_eq c 29 30 rfl
@[sl_canon] theorem out1_30 (c : Dev nD) : (Memref.whole cc0_scratch1 : Memref sig .tc .vmem S1024x1024 .bf16).slice (Rect.unit (s := S1024x1024) (k0_off8 c 30#32) S32x512.size (k0_off8_inb c 29)) (fun _ => rfl) = chunk outM (bwd c 30) 1 := out1_eq c 29 30 rfl
@[sl_canon] theorem acc0_31 (c : Dev nD) : (Memref.whole cc0_scratch0 : Memref sig .tc .vmem S1024x1024 .bf16).slice (Rect.unit (s := S1024x1024) (k0_off2 c 31#32) S32x512.size (k0_off2_inb c 30)) (fun _ => rfl) = chunk accM (fwd c 31) 0 := acc0_eq c 30 31 rfl
@[sl_canon] theorem acc1_31 (c : Dev nD) : (Memref.whole cc0_scratch0 : Memref sig .tc .vmem S1024x1024 .bf16).slice (Rect.unit (s := S1024x1024) (k0_off4 c 31#32) S32x512.size (k0_off4_inb c 30)) (fun _ => rfl) = chunk accM (fwd c 31) 1 := acc1_eq c 30 31 rfl
@[sl_canon] theorem out0_31 (c : Dev nD) : (Memref.whole cc0_scratch1 : Memref sig .tc .vmem S1024x1024 .bf16).slice (Rect.unit (s := S1024x1024) (k0_off7 c 31#32) S32x512.size (k0_off7_inb c 30)) (fun _ => rfl) = chunk outM (bwd c 31) 0 := out0_eq c 30 31 rfl
@[sl_canon] theorem out1_31 (c : Dev nD) : (Memref.whole cc0_scratch1 : Memref sig .tc .vmem S1024x1024 .bf16).slice (Rect.unit (s := S1024x1024) (k0_off8 c 31#32) S32x512.size (k0_off8_inb c 30)) (fun _ => rfl) = chunk outM (bwd c 31) 1 := out1_eq c 30 31 rfl

/-! ## Slots and semaphores: the kernel's literal slices are the protocol's entries -/

@[sl_canon] theorem slot_0_0 : ((Memref.whole cc0_scratch2 : Memref sig .tc .vmem S2x32x32x512 .bf16).slice (Rect.unit (s := S2x32x32x512) ![0, 0, 0, 0] S1x1x32x512.size inb_S2x32x32x512_S1x1x32x512_0_0_0_0) (fun _ => rfl)).squeeze S32x512 squeezes_S1x1x32x512_S32x512 = slot 0 0 := rfl
@[sl_canon] theorem slot_0_1 : ((Memref.whole cc0_scratch2 : Memref sig .tc .vmem S2x32x32x512 .bf16).slice (Rect.unit (s := S2x32x32x512) ![0, 1, 0, 0] S1x1x32x512.size inb_S2x32x32x512_S1x1x32x512_0_1_0_0) (fun _ => rfl)).squeeze S32x512 squeezes_S1x1x32x512_S32x512 = slot 0 1 := rfl
@[sl_canon] theorem slot_0_2 : ((Memref.whole cc0_scratch2 : Memref sig .tc .vmem S2x32x32x512 .bf16).slice (Rect.unit (s := S2x32x32x512) ![0, 2, 0, 0] S1x1x32x512.size inb_S2x32x32x512_S1x1x32x512_0_2_0_0) (fun _ => rfl)).squeeze S32x512 squeezes_S1x1x32x512_S32x512 = slot 0 2 := rfl
@[sl_canon] theorem slot_0_3 : ((Memref.whole cc0_scratch2 : Memref sig .tc .vmem S2x32x32x512 .bf16).slice (Rect.unit (s := S2x32x32x512) ![0, 3, 0, 0] S1x1x32x512.size inb_S2x32x32x512_S1x1x32x512_0_3_0_0) (fun _ => rfl)).squeeze S32x512 squeezes_S1x1x32x512_S32x512 = slot 0 3 := rfl
@[sl_canon] theorem slot_0_4 : ((Memref.whole cc0_scratch2 : Memref sig .tc .vmem S2x32x32x512 .bf16).slice (Rect.unit (s := S2x32x32x512) ![0, 4, 0, 0] S1x1x32x512.size inb_S2x32x32x512_S1x1x32x512_0_4_0_0) (fun _ => rfl)).squeeze S32x512 squeezes_S1x1x32x512_S32x512 = slot 0 4 := rfl
@[sl_canon] theorem slot_0_5 : ((Memref.whole cc0_scratch2 : Memref sig .tc .vmem S2x32x32x512 .bf16).slice (Rect.unit (s := S2x32x32x512) ![0, 5, 0, 0] S1x1x32x512.size inb_S2x32x32x512_S1x1x32x512_0_5_0_0) (fun _ => rfl)).squeeze S32x512 squeezes_S1x1x32x512_S32x512 = slot 0 5 := rfl
@[sl_canon] theorem slot_0_6 : ((Memref.whole cc0_scratch2 : Memref sig .tc .vmem S2x32x32x512 .bf16).slice (Rect.unit (s := S2x32x32x512) ![0, 6, 0, 0] S1x1x32x512.size inb_S2x32x32x512_S1x1x32x512_0_6_0_0) (fun _ => rfl)).squeeze S32x512 squeezes_S1x1x32x512_S32x512 = slot 0 6 := rfl
@[sl_canon] theorem slot_0_7 : ((Memref.whole cc0_scratch2 : Memref sig .tc .vmem S2x32x32x512 .bf16).slice (Rect.unit (s := S2x32x32x512) ![0, 7, 0, 0] S1x1x32x512.size inb_S2x32x32x512_S1x1x32x512_0_7_0_0) (fun _ => rfl)).squeeze S32x512 squeezes_S1x1x32x512_S32x512 = slot 0 7 := rfl
@[sl_canon] theorem slot_0_8 : ((Memref.whole cc0_scratch2 : Memref sig .tc .vmem S2x32x32x512 .bf16).slice (Rect.unit (s := S2x32x32x512) ![0, 8, 0, 0] S1x1x32x512.size inb_S2x32x32x512_S1x1x32x512_0_8_0_0) (fun _ => rfl)).squeeze S32x512 squeezes_S1x1x32x512_S32x512 = slot 0 8 := rfl
@[sl_canon] theorem slot_0_9 : ((Memref.whole cc0_scratch2 : Memref sig .tc .vmem S2x32x32x512 .bf16).slice (Rect.unit (s := S2x32x32x512) ![0, 9, 0, 0] S1x1x32x512.size inb_S2x32x32x512_S1x1x32x512_0_9_0_0) (fun _ => rfl)).squeeze S32x512 squeezes_S1x1x32x512_S32x512 = slot 0 9 := rfl
@[sl_canon] theorem slot_0_10 : ((Memref.whole cc0_scratch2 : Memref sig .tc .vmem S2x32x32x512 .bf16).slice (Rect.unit (s := S2x32x32x512) ![0, 10, 0, 0] S1x1x32x512.size inb_S2x32x32x512_S1x1x32x512_0_10_0_0) (fun _ => rfl)).squeeze S32x512 squeezes_S1x1x32x512_S32x512 = slot 0 10 := rfl
@[sl_canon] theorem slot_0_11 : ((Memref.whole cc0_scratch2 : Memref sig .tc .vmem S2x32x32x512 .bf16).slice (Rect.unit (s := S2x32x32x512) ![0, 11, 0, 0] S1x1x32x512.size inb_S2x32x32x512_S1x1x32x512_0_11_0_0) (fun _ => rfl)).squeeze S32x512 squeezes_S1x1x32x512_S32x512 = slot 0 11 := rfl
@[sl_canon] theorem slot_0_12 : ((Memref.whole cc0_scratch2 : Memref sig .tc .vmem S2x32x32x512 .bf16).slice (Rect.unit (s := S2x32x32x512) ![0, 12, 0, 0] S1x1x32x512.size inb_S2x32x32x512_S1x1x32x512_0_12_0_0) (fun _ => rfl)).squeeze S32x512 squeezes_S1x1x32x512_S32x512 = slot 0 12 := rfl
@[sl_canon] theorem slot_0_13 : ((Memref.whole cc0_scratch2 : Memref sig .tc .vmem S2x32x32x512 .bf16).slice (Rect.unit (s := S2x32x32x512) ![0, 13, 0, 0] S1x1x32x512.size inb_S2x32x32x512_S1x1x32x512_0_13_0_0) (fun _ => rfl)).squeeze S32x512 squeezes_S1x1x32x512_S32x512 = slot 0 13 := rfl
@[sl_canon] theorem slot_0_14 : ((Memref.whole cc0_scratch2 : Memref sig .tc .vmem S2x32x32x512 .bf16).slice (Rect.unit (s := S2x32x32x512) ![0, 14, 0, 0] S1x1x32x512.size inb_S2x32x32x512_S1x1x32x512_0_14_0_0) (fun _ => rfl)).squeeze S32x512 squeezes_S1x1x32x512_S32x512 = slot 0 14 := rfl
@[sl_canon] theorem slot_0_15 : ((Memref.whole cc0_scratch2 : Memref sig .tc .vmem S2x32x32x512 .bf16).slice (Rect.unit (s := S2x32x32x512) ![0, 15, 0, 0] S1x1x32x512.size inb_S2x32x32x512_S1x1x32x512_0_15_0_0) (fun _ => rfl)).squeeze S32x512 squeezes_S1x1x32x512_S32x512 = slot 0 15 := rfl
@[sl_canon] theorem slot_0_16 : ((Memref.whole cc0_scratch2 : Memref sig .tc .vmem S2x32x32x512 .bf16).slice (Rect.unit (s := S2x32x32x512) ![0, 16, 0, 0] S1x1x32x512.size inb_S2x32x32x512_S1x1x32x512_0_16_0_0) (fun _ => rfl)).squeeze S32x512 squeezes_S1x1x32x512_S32x512 = slot 0 16 := rfl
@[sl_canon] theorem slot_0_17 : ((Memref.whole cc0_scratch2 : Memref sig .tc .vmem S2x32x32x512 .bf16).slice (Rect.unit (s := S2x32x32x512) ![0, 17, 0, 0] S1x1x32x512.size inb_S2x32x32x512_S1x1x32x512_0_17_0_0) (fun _ => rfl)).squeeze S32x512 squeezes_S1x1x32x512_S32x512 = slot 0 17 := rfl
@[sl_canon] theorem slot_0_18 : ((Memref.whole cc0_scratch2 : Memref sig .tc .vmem S2x32x32x512 .bf16).slice (Rect.unit (s := S2x32x32x512) ![0, 18, 0, 0] S1x1x32x512.size inb_S2x32x32x512_S1x1x32x512_0_18_0_0) (fun _ => rfl)).squeeze S32x512 squeezes_S1x1x32x512_S32x512 = slot 0 18 := rfl
@[sl_canon] theorem slot_0_19 : ((Memref.whole cc0_scratch2 : Memref sig .tc .vmem S2x32x32x512 .bf16).slice (Rect.unit (s := S2x32x32x512) ![0, 19, 0, 0] S1x1x32x512.size inb_S2x32x32x512_S1x1x32x512_0_19_0_0) (fun _ => rfl)).squeeze S32x512 squeezes_S1x1x32x512_S32x512 = slot 0 19 := rfl
@[sl_canon] theorem slot_0_20 : ((Memref.whole cc0_scratch2 : Memref sig .tc .vmem S2x32x32x512 .bf16).slice (Rect.unit (s := S2x32x32x512) ![0, 20, 0, 0] S1x1x32x512.size inb_S2x32x32x512_S1x1x32x512_0_20_0_0) (fun _ => rfl)).squeeze S32x512 squeezes_S1x1x32x512_S32x512 = slot 0 20 := rfl
@[sl_canon] theorem slot_0_21 : ((Memref.whole cc0_scratch2 : Memref sig .tc .vmem S2x32x32x512 .bf16).slice (Rect.unit (s := S2x32x32x512) ![0, 21, 0, 0] S1x1x32x512.size inb_S2x32x32x512_S1x1x32x512_0_21_0_0) (fun _ => rfl)).squeeze S32x512 squeezes_S1x1x32x512_S32x512 = slot 0 21 := rfl
@[sl_canon] theorem slot_0_22 : ((Memref.whole cc0_scratch2 : Memref sig .tc .vmem S2x32x32x512 .bf16).slice (Rect.unit (s := S2x32x32x512) ![0, 22, 0, 0] S1x1x32x512.size inb_S2x32x32x512_S1x1x32x512_0_22_0_0) (fun _ => rfl)).squeeze S32x512 squeezes_S1x1x32x512_S32x512 = slot 0 22 := rfl
@[sl_canon] theorem slot_0_23 : ((Memref.whole cc0_scratch2 : Memref sig .tc .vmem S2x32x32x512 .bf16).slice (Rect.unit (s := S2x32x32x512) ![0, 23, 0, 0] S1x1x32x512.size inb_S2x32x32x512_S1x1x32x512_0_23_0_0) (fun _ => rfl)).squeeze S32x512 squeezes_S1x1x32x512_S32x512 = slot 0 23 := rfl
@[sl_canon] theorem slot_0_24 : ((Memref.whole cc0_scratch2 : Memref sig .tc .vmem S2x32x32x512 .bf16).slice (Rect.unit (s := S2x32x32x512) ![0, 24, 0, 0] S1x1x32x512.size inb_S2x32x32x512_S1x1x32x512_0_24_0_0) (fun _ => rfl)).squeeze S32x512 squeezes_S1x1x32x512_S32x512 = slot 0 24 := rfl
@[sl_canon] theorem slot_0_25 : ((Memref.whole cc0_scratch2 : Memref sig .tc .vmem S2x32x32x512 .bf16).slice (Rect.unit (s := S2x32x32x512) ![0, 25, 0, 0] S1x1x32x512.size inb_S2x32x32x512_S1x1x32x512_0_25_0_0) (fun _ => rfl)).squeeze S32x512 squeezes_S1x1x32x512_S32x512 = slot 0 25 := rfl
@[sl_canon] theorem slot_0_26 : ((Memref.whole cc0_scratch2 : Memref sig .tc .vmem S2x32x32x512 .bf16).slice (Rect.unit (s := S2x32x32x512) ![0, 26, 0, 0] S1x1x32x512.size inb_S2x32x32x512_S1x1x32x512_0_26_0_0) (fun _ => rfl)).squeeze S32x512 squeezes_S1x1x32x512_S32x512 = slot 0 26 := rfl
@[sl_canon] theorem slot_0_27 : ((Memref.whole cc0_scratch2 : Memref sig .tc .vmem S2x32x32x512 .bf16).slice (Rect.unit (s := S2x32x32x512) ![0, 27, 0, 0] S1x1x32x512.size inb_S2x32x32x512_S1x1x32x512_0_27_0_0) (fun _ => rfl)).squeeze S32x512 squeezes_S1x1x32x512_S32x512 = slot 0 27 := rfl
@[sl_canon] theorem slot_0_28 : ((Memref.whole cc0_scratch2 : Memref sig .tc .vmem S2x32x32x512 .bf16).slice (Rect.unit (s := S2x32x32x512) ![0, 28, 0, 0] S1x1x32x512.size inb_S2x32x32x512_S1x1x32x512_0_28_0_0) (fun _ => rfl)).squeeze S32x512 squeezes_S1x1x32x512_S32x512 = slot 0 28 := rfl
@[sl_canon] theorem slot_0_29 : ((Memref.whole cc0_scratch2 : Memref sig .tc .vmem S2x32x32x512 .bf16).slice (Rect.unit (s := S2x32x32x512) ![0, 29, 0, 0] S1x1x32x512.size inb_S2x32x32x512_S1x1x32x512_0_29_0_0) (fun _ => rfl)).squeeze S32x512 squeezes_S1x1x32x512_S32x512 = slot 0 29 := rfl
@[sl_canon] theorem slot_0_30 : ((Memref.whole cc0_scratch2 : Memref sig .tc .vmem S2x32x32x512 .bf16).slice (Rect.unit (s := S2x32x32x512) ![0, 30, 0, 0] S1x1x32x512.size inb_S2x32x32x512_S1x1x32x512_0_30_0_0) (fun _ => rfl)).squeeze S32x512 squeezes_S1x1x32x512_S32x512 = slot 0 30 := rfl
@[sl_canon] theorem slot_0_31 : ((Memref.whole cc0_scratch2 : Memref sig .tc .vmem S2x32x32x512 .bf16).slice (Rect.unit (s := S2x32x32x512) ![0, 31, 0, 0] S1x1x32x512.size inb_S2x32x32x512_S1x1x32x512_0_31_0_0) (fun _ => rfl)).squeeze S32x512 squeezes_S1x1x32x512_S32x512 = slot 0 31 := rfl
@[sl_canon] theorem slot_1_0 : ((Memref.whole cc0_scratch2 : Memref sig .tc .vmem S2x32x32x512 .bf16).slice (Rect.unit (s := S2x32x32x512) ![1, 0, 0, 0] S1x1x32x512.size inb_S2x32x32x512_S1x1x32x512_1_0_0_0) (fun _ => rfl)).squeeze S32x512 squeezes_S1x1x32x512_S32x512 = slot 1 0 := rfl
@[sl_canon] theorem slot_1_1 : ((Memref.whole cc0_scratch2 : Memref sig .tc .vmem S2x32x32x512 .bf16).slice (Rect.unit (s := S2x32x32x512) ![1, 1, 0, 0] S1x1x32x512.size inb_S2x32x32x512_S1x1x32x512_1_1_0_0) (fun _ => rfl)).squeeze S32x512 squeezes_S1x1x32x512_S32x512 = slot 1 1 := rfl
@[sl_canon] theorem slot_1_2 : ((Memref.whole cc0_scratch2 : Memref sig .tc .vmem S2x32x32x512 .bf16).slice (Rect.unit (s := S2x32x32x512) ![1, 2, 0, 0] S1x1x32x512.size inb_S2x32x32x512_S1x1x32x512_1_2_0_0) (fun _ => rfl)).squeeze S32x512 squeezes_S1x1x32x512_S32x512 = slot 1 2 := rfl
@[sl_canon] theorem slot_1_3 : ((Memref.whole cc0_scratch2 : Memref sig .tc .vmem S2x32x32x512 .bf16).slice (Rect.unit (s := S2x32x32x512) ![1, 3, 0, 0] S1x1x32x512.size inb_S2x32x32x512_S1x1x32x512_1_3_0_0) (fun _ => rfl)).squeeze S32x512 squeezes_S1x1x32x512_S32x512 = slot 1 3 := rfl
@[sl_canon] theorem slot_1_4 : ((Memref.whole cc0_scratch2 : Memref sig .tc .vmem S2x32x32x512 .bf16).slice (Rect.unit (s := S2x32x32x512) ![1, 4, 0, 0] S1x1x32x512.size inb_S2x32x32x512_S1x1x32x512_1_4_0_0) (fun _ => rfl)).squeeze S32x512 squeezes_S1x1x32x512_S32x512 = slot 1 4 := rfl
@[sl_canon] theorem slot_1_5 : ((Memref.whole cc0_scratch2 : Memref sig .tc .vmem S2x32x32x512 .bf16).slice (Rect.unit (s := S2x32x32x512) ![1, 5, 0, 0] S1x1x32x512.size inb_S2x32x32x512_S1x1x32x512_1_5_0_0) (fun _ => rfl)).squeeze S32x512 squeezes_S1x1x32x512_S32x512 = slot 1 5 := rfl
@[sl_canon] theorem slot_1_6 : ((Memref.whole cc0_scratch2 : Memref sig .tc .vmem S2x32x32x512 .bf16).slice (Rect.unit (s := S2x32x32x512) ![1, 6, 0, 0] S1x1x32x512.size inb_S2x32x32x512_S1x1x32x512_1_6_0_0) (fun _ => rfl)).squeeze S32x512 squeezes_S1x1x32x512_S32x512 = slot 1 6 := rfl
@[sl_canon] theorem slot_1_7 : ((Memref.whole cc0_scratch2 : Memref sig .tc .vmem S2x32x32x512 .bf16).slice (Rect.unit (s := S2x32x32x512) ![1, 7, 0, 0] S1x1x32x512.size inb_S2x32x32x512_S1x1x32x512_1_7_0_0) (fun _ => rfl)).squeeze S32x512 squeezes_S1x1x32x512_S32x512 = slot 1 7 := rfl
@[sl_canon] theorem slot_1_8 : ((Memref.whole cc0_scratch2 : Memref sig .tc .vmem S2x32x32x512 .bf16).slice (Rect.unit (s := S2x32x32x512) ![1, 8, 0, 0] S1x1x32x512.size inb_S2x32x32x512_S1x1x32x512_1_8_0_0) (fun _ => rfl)).squeeze S32x512 squeezes_S1x1x32x512_S32x512 = slot 1 8 := rfl
@[sl_canon] theorem slot_1_9 : ((Memref.whole cc0_scratch2 : Memref sig .tc .vmem S2x32x32x512 .bf16).slice (Rect.unit (s := S2x32x32x512) ![1, 9, 0, 0] S1x1x32x512.size inb_S2x32x32x512_S1x1x32x512_1_9_0_0) (fun _ => rfl)).squeeze S32x512 squeezes_S1x1x32x512_S32x512 = slot 1 9 := rfl
@[sl_canon] theorem slot_1_10 : ((Memref.whole cc0_scratch2 : Memref sig .tc .vmem S2x32x32x512 .bf16).slice (Rect.unit (s := S2x32x32x512) ![1, 10, 0, 0] S1x1x32x512.size inb_S2x32x32x512_S1x1x32x512_1_10_0_0) (fun _ => rfl)).squeeze S32x512 squeezes_S1x1x32x512_S32x512 = slot 1 10 := rfl
@[sl_canon] theorem slot_1_11 : ((Memref.whole cc0_scratch2 : Memref sig .tc .vmem S2x32x32x512 .bf16).slice (Rect.unit (s := S2x32x32x512) ![1, 11, 0, 0] S1x1x32x512.size inb_S2x32x32x512_S1x1x32x512_1_11_0_0) (fun _ => rfl)).squeeze S32x512 squeezes_S1x1x32x512_S32x512 = slot 1 11 := rfl
@[sl_canon] theorem slot_1_12 : ((Memref.whole cc0_scratch2 : Memref sig .tc .vmem S2x32x32x512 .bf16).slice (Rect.unit (s := S2x32x32x512) ![1, 12, 0, 0] S1x1x32x512.size inb_S2x32x32x512_S1x1x32x512_1_12_0_0) (fun _ => rfl)).squeeze S32x512 squeezes_S1x1x32x512_S32x512 = slot 1 12 := rfl
@[sl_canon] theorem slot_1_13 : ((Memref.whole cc0_scratch2 : Memref sig .tc .vmem S2x32x32x512 .bf16).slice (Rect.unit (s := S2x32x32x512) ![1, 13, 0, 0] S1x1x32x512.size inb_S2x32x32x512_S1x1x32x512_1_13_0_0) (fun _ => rfl)).squeeze S32x512 squeezes_S1x1x32x512_S32x512 = slot 1 13 := rfl
@[sl_canon] theorem slot_1_14 : ((Memref.whole cc0_scratch2 : Memref sig .tc .vmem S2x32x32x512 .bf16).slice (Rect.unit (s := S2x32x32x512) ![1, 14, 0, 0] S1x1x32x512.size inb_S2x32x32x512_S1x1x32x512_1_14_0_0) (fun _ => rfl)).squeeze S32x512 squeezes_S1x1x32x512_S32x512 = slot 1 14 := rfl
@[sl_canon] theorem slot_1_15 : ((Memref.whole cc0_scratch2 : Memref sig .tc .vmem S2x32x32x512 .bf16).slice (Rect.unit (s := S2x32x32x512) ![1, 15, 0, 0] S1x1x32x512.size inb_S2x32x32x512_S1x1x32x512_1_15_0_0) (fun _ => rfl)).squeeze S32x512 squeezes_S1x1x32x512_S32x512 = slot 1 15 := rfl
@[sl_canon] theorem slot_1_16 : ((Memref.whole cc0_scratch2 : Memref sig .tc .vmem S2x32x32x512 .bf16).slice (Rect.unit (s := S2x32x32x512) ![1, 16, 0, 0] S1x1x32x512.size inb_S2x32x32x512_S1x1x32x512_1_16_0_0) (fun _ => rfl)).squeeze S32x512 squeezes_S1x1x32x512_S32x512 = slot 1 16 := rfl
@[sl_canon] theorem slot_1_17 : ((Memref.whole cc0_scratch2 : Memref sig .tc .vmem S2x32x32x512 .bf16).slice (Rect.unit (s := S2x32x32x512) ![1, 17, 0, 0] S1x1x32x512.size inb_S2x32x32x512_S1x1x32x512_1_17_0_0) (fun _ => rfl)).squeeze S32x512 squeezes_S1x1x32x512_S32x512 = slot 1 17 := rfl
@[sl_canon] theorem slot_1_18 : ((Memref.whole cc0_scratch2 : Memref sig .tc .vmem S2x32x32x512 .bf16).slice (Rect.unit (s := S2x32x32x512) ![1, 18, 0, 0] S1x1x32x512.size inb_S2x32x32x512_S1x1x32x512_1_18_0_0) (fun _ => rfl)).squeeze S32x512 squeezes_S1x1x32x512_S32x512 = slot 1 18 := rfl
@[sl_canon] theorem slot_1_19 : ((Memref.whole cc0_scratch2 : Memref sig .tc .vmem S2x32x32x512 .bf16).slice (Rect.unit (s := S2x32x32x512) ![1, 19, 0, 0] S1x1x32x512.size inb_S2x32x32x512_S1x1x32x512_1_19_0_0) (fun _ => rfl)).squeeze S32x512 squeezes_S1x1x32x512_S32x512 = slot 1 19 := rfl
@[sl_canon] theorem slot_1_20 : ((Memref.whole cc0_scratch2 : Memref sig .tc .vmem S2x32x32x512 .bf16).slice (Rect.unit (s := S2x32x32x512) ![1, 20, 0, 0] S1x1x32x512.size inb_S2x32x32x512_S1x1x32x512_1_20_0_0) (fun _ => rfl)).squeeze S32x512 squeezes_S1x1x32x512_S32x512 = slot 1 20 := rfl
@[sl_canon] theorem slot_1_21 : ((Memref.whole cc0_scratch2 : Memref sig .tc .vmem S2x32x32x512 .bf16).slice (Rect.unit (s := S2x32x32x512) ![1, 21, 0, 0] S1x1x32x512.size inb_S2x32x32x512_S1x1x32x512_1_21_0_0) (fun _ => rfl)).squeeze S32x512 squeezes_S1x1x32x512_S32x512 = slot 1 21 := rfl
@[sl_canon] theorem slot_1_22 : ((Memref.whole cc0_scratch2 : Memref sig .tc .vmem S2x32x32x512 .bf16).slice (Rect.unit (s := S2x32x32x512) ![1, 22, 0, 0] S1x1x32x512.size inb_S2x32x32x512_S1x1x32x512_1_22_0_0) (fun _ => rfl)).squeeze S32x512 squeezes_S1x1x32x512_S32x512 = slot 1 22 := rfl
@[sl_canon] theorem slot_1_23 : ((Memref.whole cc0_scratch2 : Memref sig .tc .vmem S2x32x32x512 .bf16).slice (Rect.unit (s := S2x32x32x512) ![1, 23, 0, 0] S1x1x32x512.size inb_S2x32x32x512_S1x1x32x512_1_23_0_0) (fun _ => rfl)).squeeze S32x512 squeezes_S1x1x32x512_S32x512 = slot 1 23 := rfl
@[sl_canon] theorem slot_1_24 : ((Memref.whole cc0_scratch2 : Memref sig .tc .vmem S2x32x32x512 .bf16).slice (Rect.unit (s := S2x32x32x512) ![1, 24, 0, 0] S1x1x32x512.size inb_S2x32x32x512_S1x1x32x512_1_24_0_0) (fun _ => rfl)).squeeze S32x512 squeezes_S1x1x32x512_S32x512 = slot 1 24 := rfl
@[sl_canon] theorem slot_1_25 : ((Memref.whole cc0_scratch2 : Memref sig .tc .vmem S2x32x32x512 .bf16).slice (Rect.unit (s := S2x32x32x512) ![1, 25, 0, 0] S1x1x32x512.size inb_S2x32x32x512_S1x1x32x512_1_25_0_0) (fun _ => rfl)).squeeze S32x512 squeezes_S1x1x32x512_S32x512 = slot 1 25 := rfl
@[sl_canon] theorem slot_1_26 : ((Memref.whole cc0_scratch2 : Memref sig .tc .vmem S2x32x32x512 .bf16).slice (Rect.unit (s := S2x32x32x512) ![1, 26, 0, 0] S1x1x32x512.size inb_S2x32x32x512_S1x1x32x512_1_26_0_0) (fun _ => rfl)).squeeze S32x512 squeezes_S1x1x32x512_S32x512 = slot 1 26 := rfl
@[sl_canon] theorem slot_1_27 : ((Memref.whole cc0_scratch2 : Memref sig .tc .vmem S2x32x32x512 .bf16).slice (Rect.unit (s := S2x32x32x512) ![1, 27, 0, 0] S1x1x32x512.size inb_S2x32x32x512_S1x1x32x512_1_27_0_0) (fun _ => rfl)).squeeze S32x512 squeezes_S1x1x32x512_S32x512 = slot 1 27 := rfl
@[sl_canon] theorem slot_1_28 : ((Memref.whole cc0_scratch2 : Memref sig .tc .vmem S2x32x32x512 .bf16).slice (Rect.unit (s := S2x32x32x512) ![1, 28, 0, 0] S1x1x32x512.size inb_S2x32x32x512_S1x1x32x512_1_28_0_0) (fun _ => rfl)).squeeze S32x512 squeezes_S1x1x32x512_S32x512 = slot 1 28 := rfl
@[sl_canon] theorem slot_1_29 : ((Memref.whole cc0_scratch2 : Memref sig .tc .vmem S2x32x32x512 .bf16).slice (Rect.unit (s := S2x32x32x512) ![1, 29, 0, 0] S1x1x32x512.size inb_S2x32x32x512_S1x1x32x512_1_29_0_0) (fun _ => rfl)).squeeze S32x512 squeezes_S1x1x32x512_S32x512 = slot 1 29 := rfl
@[sl_canon] theorem slot_1_30 : ((Memref.whole cc0_scratch2 : Memref sig .tc .vmem S2x32x32x512 .bf16).slice (Rect.unit (s := S2x32x32x512) ![1, 30, 0, 0] S1x1x32x512.size inb_S2x32x32x512_S1x1x32x512_1_30_0_0) (fun _ => rfl)).squeeze S32x512 squeezes_S1x1x32x512_S32x512 = slot 1 30 := rfl
@[sl_canon] theorem slot_1_31 : ((Memref.whole cc0_scratch2 : Memref sig .tc .vmem S2x32x32x512 .bf16).slice (Rect.unit (s := S2x32x32x512) ![1, 31, 0, 0] S1x1x32x512.size inb_S2x32x32x512_S1x1x32x512_1_31_0_0) (fun _ => rfl)).squeeze S32x512 squeezes_S1x1x32x512_S32x512 = slot 1 31 := rfl
@[sl_canon] theorem sem_0_0_1 : ((cc0_scratch3.slice (Rect.unit (s := S2x32) ![0, 1] S1x1.size inb_S2x32_S1x1_0_1)).squeeze S_ squeezes_S1x1_S_).sem = semAt (arr 0) 0 1 := rfl
@[sl_canon] theorem sem_0_0_2 : ((cc0_scratch3.slice (Rect.unit (s := S2x32) ![0, 2] S1x1.size inb_S2x32_S1x1_0_2)).squeeze S_ squeezes_S1x1_S_).sem = semAt (arr 0) 0 2 := rfl
@[sl_canon] theorem sem_0_0_3 : ((cc0_scratch3.slice (Rect.unit (s := S2x32) ![0, 3] S1x1.size inb_S2x32_S1x1_0_3)).squeeze S_ squeezes_S1x1_S_).sem = semAt (arr 0) 0 3 := rfl
@[sl_canon] theorem sem_0_0_4 : ((cc0_scratch3.slice (Rect.unit (s := S2x32) ![0, 4] S1x1.size inb_S2x32_S1x1_0_4)).squeeze S_ squeezes_S1x1_S_).sem = semAt (arr 0) 0 4 := rfl
@[sl_canon] theorem sem_0_0_5 : ((cc0_scratch3.slice (Rect.unit (s := S2x32) ![0, 5] S1x1.size inb_S2x32_S1x1_0_5)).squeeze S_ squeezes_S1x1_S_).sem = semAt (arr 0) 0 5 := rfl
@[sl_canon] theorem sem_0_0_6 : ((cc0_scratch3.slice (Rect.unit (s := S2x32) ![0, 6] S1x1.size inb_S2x32_S1x1_0_6)).squeeze S_ squeezes_S1x1_S_).sem = semAt (arr 0) 0 6 := rfl
@[sl_canon] theorem sem_0_0_7 : ((cc0_scratch3.slice (Rect.unit (s := S2x32) ![0, 7] S1x1.size inb_S2x32_S1x1_0_7)).squeeze S_ squeezes_S1x1_S_).sem = semAt (arr 0) 0 7 := rfl
@[sl_canon] theorem sem_0_0_8 : ((cc0_scratch3.slice (Rect.unit (s := S2x32) ![0, 8] S1x1.size inb_S2x32_S1x1_0_8)).squeeze S_ squeezes_S1x1_S_).sem = semAt (arr 0) 0 8 := rfl
@[sl_canon] theorem sem_0_0_9 : ((cc0_scratch3.slice (Rect.unit (s := S2x32) ![0, 9] S1x1.size inb_S2x32_S1x1_0_9)).squeeze S_ squeezes_S1x1_S_).sem = semAt (arr 0) 0 9 := rfl
@[sl_canon] theorem sem_0_0_10 : ((cc0_scratch3.slice (Rect.unit (s := S2x32) ![0, 10] S1x1.size inb_S2x32_S1x1_0_10)).squeeze S_ squeezes_S1x1_S_).sem = semAt (arr 0) 0 10 := rfl
@[sl_canon] theorem sem_0_0_11 : ((cc0_scratch3.slice (Rect.unit (s := S2x32) ![0, 11] S1x1.size inb_S2x32_S1x1_0_11)).squeeze S_ squeezes_S1x1_S_).sem = semAt (arr 0) 0 11 := rfl
@[sl_canon] theorem sem_0_0_12 : ((cc0_scratch3.slice (Rect.unit (s := S2x32) ![0, 12] S1x1.size inb_S2x32_S1x1_0_12)).squeeze S_ squeezes_S1x1_S_).sem = semAt (arr 0) 0 12 := rfl
@[sl_canon] theorem sem_0_0_13 : ((cc0_scratch3.slice (Rect.unit (s := S2x32) ![0, 13] S1x1.size inb_S2x32_S1x1_0_13)).squeeze S_ squeezes_S1x1_S_).sem = semAt (arr 0) 0 13 := rfl
@[sl_canon] theorem sem_0_0_14 : ((cc0_scratch3.slice (Rect.unit (s := S2x32) ![0, 14] S1x1.size inb_S2x32_S1x1_0_14)).squeeze S_ squeezes_S1x1_S_).sem = semAt (arr 0) 0 14 := rfl
@[sl_canon] theorem sem_0_0_15 : ((cc0_scratch3.slice (Rect.unit (s := S2x32) ![0, 15] S1x1.size inb_S2x32_S1x1_0_15)).squeeze S_ squeezes_S1x1_S_).sem = semAt (arr 0) 0 15 := rfl
@[sl_canon] theorem sem_0_0_16 : ((cc0_scratch3.slice (Rect.unit (s := S2x32) ![0, 16] S1x1.size inb_S2x32_S1x1_0_16)).squeeze S_ squeezes_S1x1_S_).sem = semAt (arr 0) 0 16 := rfl
@[sl_canon] theorem sem_0_0_17 : ((cc0_scratch3.slice (Rect.unit (s := S2x32) ![0, 17] S1x1.size inb_S2x32_S1x1_0_17)).squeeze S_ squeezes_S1x1_S_).sem = semAt (arr 0) 0 17 := rfl
@[sl_canon] theorem sem_0_0_18 : ((cc0_scratch3.slice (Rect.unit (s := S2x32) ![0, 18] S1x1.size inb_S2x32_S1x1_0_18)).squeeze S_ squeezes_S1x1_S_).sem = semAt (arr 0) 0 18 := rfl
@[sl_canon] theorem sem_0_0_19 : ((cc0_scratch3.slice (Rect.unit (s := S2x32) ![0, 19] S1x1.size inb_S2x32_S1x1_0_19)).squeeze S_ squeezes_S1x1_S_).sem = semAt (arr 0) 0 19 := rfl
@[sl_canon] theorem sem_0_0_20 : ((cc0_scratch3.slice (Rect.unit (s := S2x32) ![0, 20] S1x1.size inb_S2x32_S1x1_0_20)).squeeze S_ squeezes_S1x1_S_).sem = semAt (arr 0) 0 20 := rfl
@[sl_canon] theorem sem_0_0_21 : ((cc0_scratch3.slice (Rect.unit (s := S2x32) ![0, 21] S1x1.size inb_S2x32_S1x1_0_21)).squeeze S_ squeezes_S1x1_S_).sem = semAt (arr 0) 0 21 := rfl
@[sl_canon] theorem sem_0_0_22 : ((cc0_scratch3.slice (Rect.unit (s := S2x32) ![0, 22] S1x1.size inb_S2x32_S1x1_0_22)).squeeze S_ squeezes_S1x1_S_).sem = semAt (arr 0) 0 22 := rfl
@[sl_canon] theorem sem_0_0_23 : ((cc0_scratch3.slice (Rect.unit (s := S2x32) ![0, 23] S1x1.size inb_S2x32_S1x1_0_23)).squeeze S_ squeezes_S1x1_S_).sem = semAt (arr 0) 0 23 := rfl
@[sl_canon] theorem sem_0_0_24 : ((cc0_scratch3.slice (Rect.unit (s := S2x32) ![0, 24] S1x1.size inb_S2x32_S1x1_0_24)).squeeze S_ squeezes_S1x1_S_).sem = semAt (arr 0) 0 24 := rfl
@[sl_canon] theorem sem_0_0_25 : ((cc0_scratch3.slice (Rect.unit (s := S2x32) ![0, 25] S1x1.size inb_S2x32_S1x1_0_25)).squeeze S_ squeezes_S1x1_S_).sem = semAt (arr 0) 0 25 := rfl
@[sl_canon] theorem sem_0_0_26 : ((cc0_scratch3.slice (Rect.unit (s := S2x32) ![0, 26] S1x1.size inb_S2x32_S1x1_0_26)).squeeze S_ squeezes_S1x1_S_).sem = semAt (arr 0) 0 26 := rfl
@[sl_canon] theorem sem_0_0_27 : ((cc0_scratch3.slice (Rect.unit (s := S2x32) ![0, 27] S1x1.size inb_S2x32_S1x1_0_27)).squeeze S_ squeezes_S1x1_S_).sem = semAt (arr 0) 0 27 := rfl
@[sl_canon] theorem sem_0_0_28 : ((cc0_scratch3.slice (Rect.unit (s := S2x32) ![0, 28] S1x1.size inb_S2x32_S1x1_0_28)).squeeze S_ squeezes_S1x1_S_).sem = semAt (arr 0) 0 28 := rfl
@[sl_canon] theorem sem_0_0_29 : ((cc0_scratch3.slice (Rect.unit (s := S2x32) ![0, 29] S1x1.size inb_S2x32_S1x1_0_29)).squeeze S_ squeezes_S1x1_S_).sem = semAt (arr 0) 0 29 := rfl
@[sl_canon] theorem sem_0_0_30 : ((cc0_scratch3.slice (Rect.unit (s := S2x32) ![0, 30] S1x1.size inb_S2x32_S1x1_0_30)).squeeze S_ squeezes_S1x1_S_).sem = semAt (arr 0) 0 30 := rfl
@[sl_canon] theorem sem_0_0_31 : ((cc0_scratch3.slice (Rect.unit (s := S2x32) ![0, 31] S1x1.size inb_S2x32_S1x1_0_31)).squeeze S_ squeezes_S1x1_S_).sem = semAt (arr 0) 0 31 := rfl
@[sl_canon] theorem sem_0_1_1 : ((cc0_scratch3.slice (Rect.unit (s := S2x32) ![1, 1] S1x1.size inb_S2x32_S1x1_1_1)).squeeze S_ squeezes_S1x1_S_).sem = semAt (arr 0) 1 1 := rfl
@[sl_canon] theorem sem_0_1_2 : ((cc0_scratch3.slice (Rect.unit (s := S2x32) ![1, 2] S1x1.size inb_S2x32_S1x1_1_2)).squeeze S_ squeezes_S1x1_S_).sem = semAt (arr 0) 1 2 := rfl
@[sl_canon] theorem sem_0_1_3 : ((cc0_scratch3.slice (Rect.unit (s := S2x32) ![1, 3] S1x1.size inb_S2x32_S1x1_1_3)).squeeze S_ squeezes_S1x1_S_).sem = semAt (arr 0) 1 3 := rfl
@[sl_canon] theorem sem_0_1_4 : ((cc0_scratch3.slice (Rect.unit (s := S2x32) ![1, 4] S1x1.size inb_S2x32_S1x1_1_4)).squeeze S_ squeezes_S1x1_S_).sem = semAt (arr 0) 1 4 := rfl
@[sl_canon] theorem sem_0_1_5 : ((cc0_scratch3.slice (Rect.unit (s := S2x32) ![1, 5] S1x1.size inb_S2x32_S1x1_1_5)).squeeze S_ squeezes_S1x1_S_).sem = semAt (arr 0) 1 5 := rfl
@[sl_canon] theorem sem_0_1_6 : ((cc0_scratch3.slice (Rect.unit (s := S2x32) ![1, 6] S1x1.size inb_S2x32_S1x1_1_6)).squeeze S_ squeezes_S1x1_S_).sem = semAt (arr 0) 1 6 := rfl
@[sl_canon] theorem sem_0_1_7 : ((cc0_scratch3.slice (Rect.unit (s := S2x32) ![1, 7] S1x1.size inb_S2x32_S1x1_1_7)).squeeze S_ squeezes_S1x1_S_).sem = semAt (arr 0) 1 7 := rfl
@[sl_canon] theorem sem_0_1_8 : ((cc0_scratch3.slice (Rect.unit (s := S2x32) ![1, 8] S1x1.size inb_S2x32_S1x1_1_8)).squeeze S_ squeezes_S1x1_S_).sem = semAt (arr 0) 1 8 := rfl
@[sl_canon] theorem sem_0_1_9 : ((cc0_scratch3.slice (Rect.unit (s := S2x32) ![1, 9] S1x1.size inb_S2x32_S1x1_1_9)).squeeze S_ squeezes_S1x1_S_).sem = semAt (arr 0) 1 9 := rfl
@[sl_canon] theorem sem_0_1_10 : ((cc0_scratch3.slice (Rect.unit (s := S2x32) ![1, 10] S1x1.size inb_S2x32_S1x1_1_10)).squeeze S_ squeezes_S1x1_S_).sem = semAt (arr 0) 1 10 := rfl
@[sl_canon] theorem sem_0_1_11 : ((cc0_scratch3.slice (Rect.unit (s := S2x32) ![1, 11] S1x1.size inb_S2x32_S1x1_1_11)).squeeze S_ squeezes_S1x1_S_).sem = semAt (arr 0) 1 11 := rfl
@[sl_canon] theorem sem_0_1_12 : ((cc0_scratch3.slice (Rect.unit (s := S2x32) ![1, 12] S1x1.size inb_S2x32_S1x1_1_12)).squeeze S_ squeezes_S1x1_S_).sem = semAt (arr 0) 1 12 := rfl
@[sl_canon] theorem sem_0_1_13 : ((cc0_scratch3.slice (Rect.unit (s := S2x32) ![1, 13] S1x1.size inb_S2x32_S1x1_1_13)).squeeze S_ squeezes_S1x1_S_).sem = semAt (arr 0) 1 13 := rfl
@[sl_canon] theorem sem_0_1_14 : ((cc0_scratch3.slice (Rect.unit (s := S2x32) ![1, 14] S1x1.size inb_S2x32_S1x1_1_14)).squeeze S_ squeezes_S1x1_S_).sem = semAt (arr 0) 1 14 := rfl
@[sl_canon] theorem sem_0_1_15 : ((cc0_scratch3.slice (Rect.unit (s := S2x32) ![1, 15] S1x1.size inb_S2x32_S1x1_1_15)).squeeze S_ squeezes_S1x1_S_).sem = semAt (arr 0) 1 15 := rfl
@[sl_canon] theorem sem_0_1_16 : ((cc0_scratch3.slice (Rect.unit (s := S2x32) ![1, 16] S1x1.size inb_S2x32_S1x1_1_16)).squeeze S_ squeezes_S1x1_S_).sem = semAt (arr 0) 1 16 := rfl
@[sl_canon] theorem sem_0_1_17 : ((cc0_scratch3.slice (Rect.unit (s := S2x32) ![1, 17] S1x1.size inb_S2x32_S1x1_1_17)).squeeze S_ squeezes_S1x1_S_).sem = semAt (arr 0) 1 17 := rfl
@[sl_canon] theorem sem_0_1_18 : ((cc0_scratch3.slice (Rect.unit (s := S2x32) ![1, 18] S1x1.size inb_S2x32_S1x1_1_18)).squeeze S_ squeezes_S1x1_S_).sem = semAt (arr 0) 1 18 := rfl
@[sl_canon] theorem sem_0_1_19 : ((cc0_scratch3.slice (Rect.unit (s := S2x32) ![1, 19] S1x1.size inb_S2x32_S1x1_1_19)).squeeze S_ squeezes_S1x1_S_).sem = semAt (arr 0) 1 19 := rfl
@[sl_canon] theorem sem_0_1_20 : ((cc0_scratch3.slice (Rect.unit (s := S2x32) ![1, 20] S1x1.size inb_S2x32_S1x1_1_20)).squeeze S_ squeezes_S1x1_S_).sem = semAt (arr 0) 1 20 := rfl
@[sl_canon] theorem sem_0_1_21 : ((cc0_scratch3.slice (Rect.unit (s := S2x32) ![1, 21] S1x1.size inb_S2x32_S1x1_1_21)).squeeze S_ squeezes_S1x1_S_).sem = semAt (arr 0) 1 21 := rfl
@[sl_canon] theorem sem_0_1_22 : ((cc0_scratch3.slice (Rect.unit (s := S2x32) ![1, 22] S1x1.size inb_S2x32_S1x1_1_22)).squeeze S_ squeezes_S1x1_S_).sem = semAt (arr 0) 1 22 := rfl
@[sl_canon] theorem sem_0_1_23 : ((cc0_scratch3.slice (Rect.unit (s := S2x32) ![1, 23] S1x1.size inb_S2x32_S1x1_1_23)).squeeze S_ squeezes_S1x1_S_).sem = semAt (arr 0) 1 23 := rfl
@[sl_canon] theorem sem_0_1_24 : ((cc0_scratch3.slice (Rect.unit (s := S2x32) ![1, 24] S1x1.size inb_S2x32_S1x1_1_24)).squeeze S_ squeezes_S1x1_S_).sem = semAt (arr 0) 1 24 := rfl
@[sl_canon] theorem sem_0_1_25 : ((cc0_scratch3.slice (Rect.unit (s := S2x32) ![1, 25] S1x1.size inb_S2x32_S1x1_1_25)).squeeze S_ squeezes_S1x1_S_).sem = semAt (arr 0) 1 25 := rfl
@[sl_canon] theorem sem_0_1_26 : ((cc0_scratch3.slice (Rect.unit (s := S2x32) ![1, 26] S1x1.size inb_S2x32_S1x1_1_26)).squeeze S_ squeezes_S1x1_S_).sem = semAt (arr 0) 1 26 := rfl
@[sl_canon] theorem sem_0_1_27 : ((cc0_scratch3.slice (Rect.unit (s := S2x32) ![1, 27] S1x1.size inb_S2x32_S1x1_1_27)).squeeze S_ squeezes_S1x1_S_).sem = semAt (arr 0) 1 27 := rfl
@[sl_canon] theorem sem_0_1_28 : ((cc0_scratch3.slice (Rect.unit (s := S2x32) ![1, 28] S1x1.size inb_S2x32_S1x1_1_28)).squeeze S_ squeezes_S1x1_S_).sem = semAt (arr 0) 1 28 := rfl
@[sl_canon] theorem sem_0_1_29 : ((cc0_scratch3.slice (Rect.unit (s := S2x32) ![1, 29] S1x1.size inb_S2x32_S1x1_1_29)).squeeze S_ squeezes_S1x1_S_).sem = semAt (arr 0) 1 29 := rfl
@[sl_canon] theorem sem_0_1_30 : ((cc0_scratch3.slice (Rect.unit (s := S2x32) ![1, 30] S1x1.size inb_S2x32_S1x1_1_30)).squeeze S_ squeezes_S1x1_S_).sem = semAt (arr 0) 1 30 := rfl
@[sl_canon] theorem sem_0_1_31 : ((cc0_scratch3.slice (Rect.unit (s := S2x32) ![1, 31] S1x1.size inb_S2x32_S1x1_1_31)).squeeze S_ squeezes_S1x1_S_).sem = semAt (arr 0) 1 31 := rfl
@[sl_canon] theorem sem_1_0_1 : ((cc0_scratch4.slice (Rect.unit (s := S2x32) ![0, 1] S1x1.size inb_S2x32_S1x1_0_1)).squeeze S_ squeezes_S1x1_S_).sem = semAt (arr 1) 0 1 := rfl
@[sl_canon] theorem sem_1_0_2 : ((cc0_scratch4.slice (Rect.unit (s := S2x32) ![0, 2] S1x1.size inb_S2x32_S1x1_0_2)).squeeze S_ squeezes_S1x1_S_).sem = semAt (arr 1) 0 2 := rfl
@[sl_canon] theorem sem_1_0_3 : ((cc0_scratch4.slice (Rect.unit (s := S2x32) ![0, 3] S1x1.size inb_S2x32_S1x1_0_3)).squeeze S_ squeezes_S1x1_S_).sem = semAt (arr 1) 0 3 := rfl
@[sl_canon] theorem sem_1_0_4 : ((cc0_scratch4.slice (Rect.unit (s := S2x32) ![0, 4] S1x1.size inb_S2x32_S1x1_0_4)).squeeze S_ squeezes_S1x1_S_).sem = semAt (arr 1) 0 4 := rfl
@[sl_canon] theorem sem_1_0_5 : ((cc0_scratch4.slice (Rect.unit (s := S2x32) ![0, 5] S1x1.size inb_S2x32_S1x1_0_5)).squeeze S_ squeezes_S1x1_S_).sem = semAt (arr 1) 0 5 := rfl
@[sl_canon] theorem sem_1_0_6 : ((cc0_scratch4.slice (Rect.unit (s := S2x32) ![0, 6] S1x1.size inb_S2x32_S1x1_0_6)).squeeze S_ squeezes_S1x1_S_).sem = semAt (arr 1) 0 6 := rfl
@[sl_canon] theorem sem_1_0_7 : ((cc0_scratch4.slice (Rect.unit (s := S2x32) ![0, 7] S1x1.size inb_S2x32_S1x1_0_7)).squeeze S_ squeezes_S1x1_S_).sem = semAt (arr 1) 0 7 := rfl
@[sl_canon] theorem sem_1_0_8 : ((cc0_scratch4.slice (Rect.unit (s := S2x32) ![0, 8] S1x1.size inb_S2x32_S1x1_0_8)).squeeze S_ squeezes_S1x1_S_).sem = semAt (arr 1) 0 8 := rfl
@[sl_canon] theorem sem_1_0_9 : ((cc0_scratch4.slice (Rect.unit (s := S2x32) ![0, 9] S1x1.size inb_S2x32_S1x1_0_9)).squeeze S_ squeezes_S1x1_S_).sem = semAt (arr 1) 0 9 := rfl
@[sl_canon] theorem sem_1_0_10 : ((cc0_scratch4.slice (Rect.unit (s := S2x32) ![0, 10] S1x1.size inb_S2x32_S1x1_0_10)).squeeze S_ squeezes_S1x1_S_).sem = semAt (arr 1) 0 10 := rfl
@[sl_canon] theorem sem_1_0_11 : ((cc0_scratch4.slice (Rect.unit (s := S2x32) ![0, 11] S1x1.size inb_S2x32_S1x1_0_11)).squeeze S_ squeezes_S1x1_S_).sem = semAt (arr 1) 0 11 := rfl
@[sl_canon] theorem sem_1_0_12 : ((cc0_scratch4.slice (Rect.unit (s := S2x32) ![0, 12] S1x1.size inb_S2x32_S1x1_0_12)).squeeze S_ squeezes_S1x1_S_).sem = semAt (arr 1) 0 12 := rfl
@[sl_canon] theorem sem_1_0_13 : ((cc0_scratch4.slice (Rect.unit (s := S2x32) ![0, 13] S1x1.size inb_S2x32_S1x1_0_13)).squeeze S_ squeezes_S1x1_S_).sem = semAt (arr 1) 0 13 := rfl
@[sl_canon] theorem sem_1_0_14 : ((cc0_scratch4.slice (Rect.unit (s := S2x32) ![0, 14] S1x1.size inb_S2x32_S1x1_0_14)).squeeze S_ squeezes_S1x1_S_).sem = semAt (arr 1) 0 14 := rfl
@[sl_canon] theorem sem_1_0_15 : ((cc0_scratch4.slice (Rect.unit (s := S2x32) ![0, 15] S1x1.size inb_S2x32_S1x1_0_15)).squeeze S_ squeezes_S1x1_S_).sem = semAt (arr 1) 0 15 := rfl
@[sl_canon] theorem sem_1_0_16 : ((cc0_scratch4.slice (Rect.unit (s := S2x32) ![0, 16] S1x1.size inb_S2x32_S1x1_0_16)).squeeze S_ squeezes_S1x1_S_).sem = semAt (arr 1) 0 16 := rfl
@[sl_canon] theorem sem_1_0_17 : ((cc0_scratch4.slice (Rect.unit (s := S2x32) ![0, 17] S1x1.size inb_S2x32_S1x1_0_17)).squeeze S_ squeezes_S1x1_S_).sem = semAt (arr 1) 0 17 := rfl
@[sl_canon] theorem sem_1_0_18 : ((cc0_scratch4.slice (Rect.unit (s := S2x32) ![0, 18] S1x1.size inb_S2x32_S1x1_0_18)).squeeze S_ squeezes_S1x1_S_).sem = semAt (arr 1) 0 18 := rfl
@[sl_canon] theorem sem_1_0_19 : ((cc0_scratch4.slice (Rect.unit (s := S2x32) ![0, 19] S1x1.size inb_S2x32_S1x1_0_19)).squeeze S_ squeezes_S1x1_S_).sem = semAt (arr 1) 0 19 := rfl
@[sl_canon] theorem sem_1_0_20 : ((cc0_scratch4.slice (Rect.unit (s := S2x32) ![0, 20] S1x1.size inb_S2x32_S1x1_0_20)).squeeze S_ squeezes_S1x1_S_).sem = semAt (arr 1) 0 20 := rfl
@[sl_canon] theorem sem_1_0_21 : ((cc0_scratch4.slice (Rect.unit (s := S2x32) ![0, 21] S1x1.size inb_S2x32_S1x1_0_21)).squeeze S_ squeezes_S1x1_S_).sem = semAt (arr 1) 0 21 := rfl
@[sl_canon] theorem sem_1_0_22 : ((cc0_scratch4.slice (Rect.unit (s := S2x32) ![0, 22] S1x1.size inb_S2x32_S1x1_0_22)).squeeze S_ squeezes_S1x1_S_).sem = semAt (arr 1) 0 22 := rfl
@[sl_canon] theorem sem_1_0_23 : ((cc0_scratch4.slice (Rect.unit (s := S2x32) ![0, 23] S1x1.size inb_S2x32_S1x1_0_23)).squeeze S_ squeezes_S1x1_S_).sem = semAt (arr 1) 0 23 := rfl
@[sl_canon] theorem sem_1_0_24 : ((cc0_scratch4.slice (Rect.unit (s := S2x32) ![0, 24] S1x1.size inb_S2x32_S1x1_0_24)).squeeze S_ squeezes_S1x1_S_).sem = semAt (arr 1) 0 24 := rfl
@[sl_canon] theorem sem_1_0_25 : ((cc0_scratch4.slice (Rect.unit (s := S2x32) ![0, 25] S1x1.size inb_S2x32_S1x1_0_25)).squeeze S_ squeezes_S1x1_S_).sem = semAt (arr 1) 0 25 := rfl
@[sl_canon] theorem sem_1_0_26 : ((cc0_scratch4.slice (Rect.unit (s := S2x32) ![0, 26] S1x1.size inb_S2x32_S1x1_0_26)).squeeze S_ squeezes_S1x1_S_).sem = semAt (arr 1) 0 26 := rfl
@[sl_canon] theorem sem_1_0_27 : ((cc0_scratch4.slice (Rect.unit (s := S2x32) ![0, 27] S1x1.size inb_S2x32_S1x1_0_27)).squeeze S_ squeezes_S1x1_S_).sem = semAt (arr 1) 0 27 := rfl
@[sl_canon] theorem sem_1_0_28 : ((cc0_scratch4.slice (Rect.unit (s := S2x32) ![0, 28] S1x1.size inb_S2x32_S1x1_0_28)).squeeze S_ squeezes_S1x1_S_).sem = semAt (arr 1) 0 28 := rfl
@[sl_canon] theorem sem_1_0_29 : ((cc0_scratch4.slice (Rect.unit (s := S2x32) ![0, 29] S1x1.size inb_S2x32_S1x1_0_29)).squeeze S_ squeezes_S1x1_S_).sem = semAt (arr 1) 0 29 := rfl
@[sl_canon] theorem sem_1_0_30 : ((cc0_scratch4.slice (Rect.unit (s := S2x32) ![0, 30] S1x1.size inb_S2x32_S1x1_0_30)).squeeze S_ squeezes_S1x1_S_).sem = semAt (arr 1) 0 30 := rfl
@[sl_canon] theorem sem_1_0_31 : ((cc0_scratch4.slice (Rect.unit (s := S2x32) ![0, 31] S1x1.size inb_S2x32_S1x1_0_31)).squeeze S_ squeezes_S1x1_S_).sem = semAt (arr 1) 0 31 := rfl
@[sl_canon] theorem sem_1_1_1 : ((cc0_scratch4.slice (Rect.unit (s := S2x32) ![1, 1] S1x1.size inb_S2x32_S1x1_1_1)).squeeze S_ squeezes_S1x1_S_).sem = semAt (arr 1) 1 1 := rfl
@[sl_canon] theorem sem_1_1_2 : ((cc0_scratch4.slice (Rect.unit (s := S2x32) ![1, 2] S1x1.size inb_S2x32_S1x1_1_2)).squeeze S_ squeezes_S1x1_S_).sem = semAt (arr 1) 1 2 := rfl
@[sl_canon] theorem sem_1_1_3 : ((cc0_scratch4.slice (Rect.unit (s := S2x32) ![1, 3] S1x1.size inb_S2x32_S1x1_1_3)).squeeze S_ squeezes_S1x1_S_).sem = semAt (arr 1) 1 3 := rfl
@[sl_canon] theorem sem_1_1_4 : ((cc0_scratch4.slice (Rect.unit (s := S2x32) ![1, 4] S1x1.size inb_S2x32_S1x1_1_4)).squeeze S_ squeezes_S1x1_S_).sem = semAt (arr 1) 1 4 := rfl
@[sl_canon] theorem sem_1_1_5 : ((cc0_scratch4.slice (Rect.unit (s := S2x32) ![1, 5] S1x1.size inb_S2x32_S1x1_1_5)).squeeze S_ squeezes_S1x1_S_).sem = semAt (arr 1) 1 5 := rfl
@[sl_canon] theorem sem_1_1_6 : ((cc0_scratch4.slice (Rect.unit (s := S2x32) ![1, 6] S1x1.size inb_S2x32_S1x1_1_6)).squeeze S_ squeezes_S1x1_S_).sem = semAt (arr 1) 1 6 := rfl
@[sl_canon] theorem sem_1_1_7 : ((cc0_scratch4.slice (Rect.unit (s := S2x32) ![1, 7] S1x1.size inb_S2x32_S1x1_1_7)).squeeze S_ squeezes_S1x1_S_).sem = semAt (arr 1) 1 7 := rfl
@[sl_canon] theorem sem_1_1_8 : ((cc0_scratch4.slice (Rect.unit (s := S2x32) ![1, 8] S1x1.size inb_S2x32_S1x1_1_8)).squeeze S_ squeezes_S1x1_S_).sem = semAt (arr 1) 1 8 := rfl
@[sl_canon] theorem sem_1_1_9 : ((cc0_scratch4.slice (Rect.unit (s := S2x32) ![1, 9] S1x1.size inb_S2x32_S1x1_1_9)).squeeze S_ squeezes_S1x1_S_).sem = semAt (arr 1) 1 9 := rfl
@[sl_canon] theorem sem_1_1_10 : ((cc0_scratch4.slice (Rect.unit (s := S2x32) ![1, 10] S1x1.size inb_S2x32_S1x1_1_10)).squeeze S_ squeezes_S1x1_S_).sem = semAt (arr 1) 1 10 := rfl
@[sl_canon] theorem sem_1_1_11 : ((cc0_scratch4.slice (Rect.unit (s := S2x32) ![1, 11] S1x1.size inb_S2x32_S1x1_1_11)).squeeze S_ squeezes_S1x1_S_).sem = semAt (arr 1) 1 11 := rfl
@[sl_canon] theorem sem_1_1_12 : ((cc0_scratch4.slice (Rect.unit (s := S2x32) ![1, 12] S1x1.size inb_S2x32_S1x1_1_12)).squeeze S_ squeezes_S1x1_S_).sem = semAt (arr 1) 1 12 := rfl
@[sl_canon] theorem sem_1_1_13 : ((cc0_scratch4.slice (Rect.unit (s := S2x32) ![1, 13] S1x1.size inb_S2x32_S1x1_1_13)).squeeze S_ squeezes_S1x1_S_).sem = semAt (arr 1) 1 13 := rfl
@[sl_canon] theorem sem_1_1_14 : ((cc0_scratch4.slice (Rect.unit (s := S2x32) ![1, 14] S1x1.size inb_S2x32_S1x1_1_14)).squeeze S_ squeezes_S1x1_S_).sem = semAt (arr 1) 1 14 := rfl
@[sl_canon] theorem sem_1_1_15 : ((cc0_scratch4.slice (Rect.unit (s := S2x32) ![1, 15] S1x1.size inb_S2x32_S1x1_1_15)).squeeze S_ squeezes_S1x1_S_).sem = semAt (arr 1) 1 15 := rfl
@[sl_canon] theorem sem_1_1_16 : ((cc0_scratch4.slice (Rect.unit (s := S2x32) ![1, 16] S1x1.size inb_S2x32_S1x1_1_16)).squeeze S_ squeezes_S1x1_S_).sem = semAt (arr 1) 1 16 := rfl
@[sl_canon] theorem sem_1_1_17 : ((cc0_scratch4.slice (Rect.unit (s := S2x32) ![1, 17] S1x1.size inb_S2x32_S1x1_1_17)).squeeze S_ squeezes_S1x1_S_).sem = semAt (arr 1) 1 17 := rfl
@[sl_canon] theorem sem_1_1_18 : ((cc0_scratch4.slice (Rect.unit (s := S2x32) ![1, 18] S1x1.size inb_S2x32_S1x1_1_18)).squeeze S_ squeezes_S1x1_S_).sem = semAt (arr 1) 1 18 := rfl
@[sl_canon] theorem sem_1_1_19 : ((cc0_scratch4.slice (Rect.unit (s := S2x32) ![1, 19] S1x1.size inb_S2x32_S1x1_1_19)).squeeze S_ squeezes_S1x1_S_).sem = semAt (arr 1) 1 19 := rfl
@[sl_canon] theorem sem_1_1_20 : ((cc0_scratch4.slice (Rect.unit (s := S2x32) ![1, 20] S1x1.size inb_S2x32_S1x1_1_20)).squeeze S_ squeezes_S1x1_S_).sem = semAt (arr 1) 1 20 := rfl
@[sl_canon] theorem sem_1_1_21 : ((cc0_scratch4.slice (Rect.unit (s := S2x32) ![1, 21] S1x1.size inb_S2x32_S1x1_1_21)).squeeze S_ squeezes_S1x1_S_).sem = semAt (arr 1) 1 21 := rfl
@[sl_canon] theorem sem_1_1_22 : ((cc0_scratch4.slice (Rect.unit (s := S2x32) ![1, 22] S1x1.size inb_S2x32_S1x1_1_22)).squeeze S_ squeezes_S1x1_S_).sem = semAt (arr 1) 1 22 := rfl
@[sl_canon] theorem sem_1_1_23 : ((cc0_scratch4.slice (Rect.unit (s := S2x32) ![1, 23] S1x1.size inb_S2x32_S1x1_1_23)).squeeze S_ squeezes_S1x1_S_).sem = semAt (arr 1) 1 23 := rfl
@[sl_canon] theorem sem_1_1_24 : ((cc0_scratch4.slice (Rect.unit (s := S2x32) ![1, 24] S1x1.size inb_S2x32_S1x1_1_24)).squeeze S_ squeezes_S1x1_S_).sem = semAt (arr 1) 1 24 := rfl
@[sl_canon] theorem sem_1_1_25 : ((cc0_scratch4.slice (Rect.unit (s := S2x32) ![1, 25] S1x1.size inb_S2x32_S1x1_1_25)).squeeze S_ squeezes_S1x1_S_).sem = semAt (arr 1) 1 25 := rfl
@[sl_canon] theorem sem_1_1_26 : ((cc0_scratch4.slice (Rect.unit (s := S2x32) ![1, 26] S1x1.size inb_S2x32_S1x1_1_26)).squeeze S_ squeezes_S1x1_S_).sem = semAt (arr 1) 1 26 := rfl
@[sl_canon] theorem sem_1_1_27 : ((cc0_scratch4.slice (Rect.unit (s := S2x32) ![1, 27] S1x1.size inb_S2x32_S1x1_1_27)).squeeze S_ squeezes_S1x1_S_).sem = semAt (arr 1) 1 27 := rfl
@[sl_canon] theorem sem_1_1_28 : ((cc0_scratch4.slice (Rect.unit (s := S2x32) ![1, 28] S1x1.size inb_S2x32_S1x1_1_28)).squeeze S_ squeezes_S1x1_S_).sem = semAt (arr 1) 1 28 := rfl
@[sl_canon] theorem sem_1_1_29 : ((cc0_scratch4.slice (Rect.unit (s := S2x32) ![1, 29] S1x1.size inb_S2x32_S1x1_1_29)).squeeze S_ squeezes_S1x1_S_).sem = semAt (arr 1) 1 29 := rfl
@[sl_canon] theorem sem_1_1_30 : ((cc0_scratch4.slice (Rect.unit (s := S2x32) ![1, 30] S1x1.size inb_S2x32_S1x1_1_30)).squeeze S_ squeezes_S1x1_S_).sem = semAt (arr 1) 1 30 := rfl
@[sl_canon] theorem sem_1_1_31 : ((cc0_scratch4.slice (Rect.unit (s := S2x32) ![1, 31] S1x1.size inb_S2x32_S1x1_1_31)).squeeze S_ squeezes_S1x1_S_).sem = semAt (arr 1) 1 31 := rfl
@[sl_canon] theorem sem_2_0_1 : ((cc0_scratch5.slice (Rect.unit (s := S2x32) ![0, 1] S1x1.size inb_S2x32_S1x1_0_1)).squeeze S_ squeezes_S1x1_S_).sem = semAt (arr 2) 0 1 := rfl
@[sl_canon] theorem sem_2_0_2 : ((cc0_scratch5.slice (Rect.unit (s := S2x32) ![0, 2] S1x1.size inb_S2x32_S1x1_0_2)).squeeze S_ squeezes_S1x1_S_).sem = semAt (arr 2) 0 2 := rfl
@[sl_canon] theorem sem_2_0_3 : ((cc0_scratch5.slice (Rect.unit (s := S2x32) ![0, 3] S1x1.size inb_S2x32_S1x1_0_3)).squeeze S_ squeezes_S1x1_S_).sem = semAt (arr 2) 0 3 := rfl
@[sl_canon] theorem sem_2_0_4 : ((cc0_scratch5.slice (Rect.unit (s := S2x32) ![0, 4] S1x1.size inb_S2x32_S1x1_0_4)).squeeze S_ squeezes_S1x1_S_).sem = semAt (arr 2) 0 4 := rfl
@[sl_canon] theorem sem_2_0_5 : ((cc0_scratch5.slice (Rect.unit (s := S2x32) ![0, 5] S1x1.size inb_S2x32_S1x1_0_5)).squeeze S_ squeezes_S1x1_S_).sem = semAt (arr 2) 0 5 := rfl
@[sl_canon] theorem sem_2_0_6 : ((cc0_scratch5.slice (Rect.unit (s := S2x32) ![0, 6] S1x1.size inb_S2x32_S1x1_0_6)).squeeze S_ squeezes_S1x1_S_).sem = semAt (arr 2) 0 6 := rfl
@[sl_canon] theorem sem_2_0_7 : ((cc0_scratch5.slice (Rect.unit (s := S2x32) ![0, 7] S1x1.size inb_S2x32_S1x1_0_7)).squeeze S_ squeezes_S1x1_S_).sem = semAt (arr 2) 0 7 := rfl
@[sl_canon] theorem sem_2_0_8 : ((cc0_scratch5.slice (Rect.unit (s := S2x32) ![0, 8] S1x1.size inb_S2x32_S1x1_0_8)).squeeze S_ squeezes_S1x1_S_).sem = semAt (arr 2) 0 8 := rfl
@[sl_canon] theorem sem_2_0_9 : ((cc0_scratch5.slice (Rect.unit (s := S2x32) ![0, 9] S1x1.size inb_S2x32_S1x1_0_9)).squeeze S_ squeezes_S1x1_S_).sem = semAt (arr 2) 0 9 := rfl
@[sl_canon] theorem sem_2_0_10 : ((cc0_scratch5.slice (Rect.unit (s := S2x32) ![0, 10] S1x1.size inb_S2x32_S1x1_0_10)).squeeze S_ squeezes_S1x1_S_).sem = semAt (arr 2) 0 10 := rfl
@[sl_canon] theorem sem_2_0_11 : ((cc0_scratch5.slice (Rect.unit (s := S2x32) ![0, 11] S1x1.size inb_S2x32_S1x1_0_11)).squeeze S_ squeezes_S1x1_S_).sem = semAt (arr 2) 0 11 := rfl
@[sl_canon] theorem sem_2_0_12 : ((cc0_scratch5.slice (Rect.unit (s := S2x32) ![0, 12] S1x1.size inb_S2x32_S1x1_0_12)).squeeze S_ squeezes_S1x1_S_).sem = semAt (arr 2) 0 12 := rfl
@[sl_canon] theorem sem_2_0_13 : ((cc0_scratch5.slice (Rect.unit (s := S2x32) ![0, 13] S1x1.size inb_S2x32_S1x1_0_13)).squeeze S_ squeezes_S1x1_S_).sem = semAt (arr 2) 0 13 := rfl
@[sl_canon] theorem sem_2_0_14 : ((cc0_scratch5.slice (Rect.unit (s := S2x32) ![0, 14] S1x1.size inb_S2x32_S1x1_0_14)).squeeze S_ squeezes_S1x1_S_).sem = semAt (arr 2) 0 14 := rfl
@[sl_canon] theorem sem_2_0_15 : ((cc0_scratch5.slice (Rect.unit (s := S2x32) ![0, 15] S1x1.size inb_S2x32_S1x1_0_15)).squeeze S_ squeezes_S1x1_S_).sem = semAt (arr 2) 0 15 := rfl
@[sl_canon] theorem sem_2_0_16 : ((cc0_scratch5.slice (Rect.unit (s := S2x32) ![0, 16] S1x1.size inb_S2x32_S1x1_0_16)).squeeze S_ squeezes_S1x1_S_).sem = semAt (arr 2) 0 16 := rfl
@[sl_canon] theorem sem_2_0_17 : ((cc0_scratch5.slice (Rect.unit (s := S2x32) ![0, 17] S1x1.size inb_S2x32_S1x1_0_17)).squeeze S_ squeezes_S1x1_S_).sem = semAt (arr 2) 0 17 := rfl
@[sl_canon] theorem sem_2_0_18 : ((cc0_scratch5.slice (Rect.unit (s := S2x32) ![0, 18] S1x1.size inb_S2x32_S1x1_0_18)).squeeze S_ squeezes_S1x1_S_).sem = semAt (arr 2) 0 18 := rfl
@[sl_canon] theorem sem_2_0_19 : ((cc0_scratch5.slice (Rect.unit (s := S2x32) ![0, 19] S1x1.size inb_S2x32_S1x1_0_19)).squeeze S_ squeezes_S1x1_S_).sem = semAt (arr 2) 0 19 := rfl
@[sl_canon] theorem sem_2_0_20 : ((cc0_scratch5.slice (Rect.unit (s := S2x32) ![0, 20] S1x1.size inb_S2x32_S1x1_0_20)).squeeze S_ squeezes_S1x1_S_).sem = semAt (arr 2) 0 20 := rfl
@[sl_canon] theorem sem_2_0_21 : ((cc0_scratch5.slice (Rect.unit (s := S2x32) ![0, 21] S1x1.size inb_S2x32_S1x1_0_21)).squeeze S_ squeezes_S1x1_S_).sem = semAt (arr 2) 0 21 := rfl
@[sl_canon] theorem sem_2_0_22 : ((cc0_scratch5.slice (Rect.unit (s := S2x32) ![0, 22] S1x1.size inb_S2x32_S1x1_0_22)).squeeze S_ squeezes_S1x1_S_).sem = semAt (arr 2) 0 22 := rfl
@[sl_canon] theorem sem_2_0_23 : ((cc0_scratch5.slice (Rect.unit (s := S2x32) ![0, 23] S1x1.size inb_S2x32_S1x1_0_23)).squeeze S_ squeezes_S1x1_S_).sem = semAt (arr 2) 0 23 := rfl
@[sl_canon] theorem sem_2_0_24 : ((cc0_scratch5.slice (Rect.unit (s := S2x32) ![0, 24] S1x1.size inb_S2x32_S1x1_0_24)).squeeze S_ squeezes_S1x1_S_).sem = semAt (arr 2) 0 24 := rfl
@[sl_canon] theorem sem_2_0_25 : ((cc0_scratch5.slice (Rect.unit (s := S2x32) ![0, 25] S1x1.size inb_S2x32_S1x1_0_25)).squeeze S_ squeezes_S1x1_S_).sem = semAt (arr 2) 0 25 := rfl
@[sl_canon] theorem sem_2_0_26 : ((cc0_scratch5.slice (Rect.unit (s := S2x32) ![0, 26] S1x1.size inb_S2x32_S1x1_0_26)).squeeze S_ squeezes_S1x1_S_).sem = semAt (arr 2) 0 26 := rfl
@[sl_canon] theorem sem_2_0_27 : ((cc0_scratch5.slice (Rect.unit (s := S2x32) ![0, 27] S1x1.size inb_S2x32_S1x1_0_27)).squeeze S_ squeezes_S1x1_S_).sem = semAt (arr 2) 0 27 := rfl
@[sl_canon] theorem sem_2_0_28 : ((cc0_scratch5.slice (Rect.unit (s := S2x32) ![0, 28] S1x1.size inb_S2x32_S1x1_0_28)).squeeze S_ squeezes_S1x1_S_).sem = semAt (arr 2) 0 28 := rfl
@[sl_canon] theorem sem_2_0_29 : ((cc0_scratch5.slice (Rect.unit (s := S2x32) ![0, 29] S1x1.size inb_S2x32_S1x1_0_29)).squeeze S_ squeezes_S1x1_S_).sem = semAt (arr 2) 0 29 := rfl
@[sl_canon] theorem sem_2_0_30 : ((cc0_scratch5.slice (Rect.unit (s := S2x32) ![0, 30] S1x1.size inb_S2x32_S1x1_0_30)).squeeze S_ squeezes_S1x1_S_).sem = semAt (arr 2) 0 30 := rfl
@[sl_canon] theorem sem_2_0_31 : ((cc0_scratch5.slice (Rect.unit (s := S2x32) ![0, 31] S1x1.size inb_S2x32_S1x1_0_31)).squeeze S_ squeezes_S1x1_S_).sem = semAt (arr 2) 0 31 := rfl
@[sl_canon] theorem sem_2_1_1 : ((cc0_scratch5.slice (Rect.unit (s := S2x32) ![1, 1] S1x1.size inb_S2x32_S1x1_1_1)).squeeze S_ squeezes_S1x1_S_).sem = semAt (arr 2) 1 1 := rfl
@[sl_canon] theorem sem_2_1_2 : ((cc0_scratch5.slice (Rect.unit (s := S2x32) ![1, 2] S1x1.size inb_S2x32_S1x1_1_2)).squeeze S_ squeezes_S1x1_S_).sem = semAt (arr 2) 1 2 := rfl
@[sl_canon] theorem sem_2_1_3 : ((cc0_scratch5.slice (Rect.unit (s := S2x32) ![1, 3] S1x1.size inb_S2x32_S1x1_1_3)).squeeze S_ squeezes_S1x1_S_).sem = semAt (arr 2) 1 3 := rfl
@[sl_canon] theorem sem_2_1_4 : ((cc0_scratch5.slice (Rect.unit (s := S2x32) ![1, 4] S1x1.size inb_S2x32_S1x1_1_4)).squeeze S_ squeezes_S1x1_S_).sem = semAt (arr 2) 1 4 := rfl
@[sl_canon] theorem sem_2_1_5 : ((cc0_scratch5.slice (Rect.unit (s := S2x32) ![1, 5] S1x1.size inb_S2x32_S1x1_1_5)).squeeze S_ squeezes_S1x1_S_).sem = semAt (arr 2) 1 5 := rfl
@[sl_canon] theorem sem_2_1_6 : ((cc0_scratch5.slice (Rect.unit (s := S2x32) ![1, 6] S1x1.size inb_S2x32_S1x1_1_6)).squeeze S_ squeezes_S1x1_S_).sem = semAt (arr 2) 1 6 := rfl
@[sl_canon] theorem sem_2_1_7 : ((cc0_scratch5.slice (Rect.unit (s := S2x32) ![1, 7] S1x1.size inb_S2x32_S1x1_1_7)).squeeze S_ squeezes_S1x1_S_).sem = semAt (arr 2) 1 7 := rfl
@[sl_canon] theorem sem_2_1_8 : ((cc0_scratch5.slice (Rect.unit (s := S2x32) ![1, 8] S1x1.size inb_S2x32_S1x1_1_8)).squeeze S_ squeezes_S1x1_S_).sem = semAt (arr 2) 1 8 := rfl
@[sl_canon] theorem sem_2_1_9 : ((cc0_scratch5.slice (Rect.unit (s := S2x32) ![1, 9] S1x1.size inb_S2x32_S1x1_1_9)).squeeze S_ squeezes_S1x1_S_).sem = semAt (arr 2) 1 9 := rfl
@[sl_canon] theorem sem_2_1_10 : ((cc0_scratch5.slice (Rect.unit (s := S2x32) ![1, 10] S1x1.size inb_S2x32_S1x1_1_10)).squeeze S_ squeezes_S1x1_S_).sem = semAt (arr 2) 1 10 := rfl
@[sl_canon] theorem sem_2_1_11 : ((cc0_scratch5.slice (Rect.unit (s := S2x32) ![1, 11] S1x1.size inb_S2x32_S1x1_1_11)).squeeze S_ squeezes_S1x1_S_).sem = semAt (arr 2) 1 11 := rfl
@[sl_canon] theorem sem_2_1_12 : ((cc0_scratch5.slice (Rect.unit (s := S2x32) ![1, 12] S1x1.size inb_S2x32_S1x1_1_12)).squeeze S_ squeezes_S1x1_S_).sem = semAt (arr 2) 1 12 := rfl
@[sl_canon] theorem sem_2_1_13 : ((cc0_scratch5.slice (Rect.unit (s := S2x32) ![1, 13] S1x1.size inb_S2x32_S1x1_1_13)).squeeze S_ squeezes_S1x1_S_).sem = semAt (arr 2) 1 13 := rfl
@[sl_canon] theorem sem_2_1_14 : ((cc0_scratch5.slice (Rect.unit (s := S2x32) ![1, 14] S1x1.size inb_S2x32_S1x1_1_14)).squeeze S_ squeezes_S1x1_S_).sem = semAt (arr 2) 1 14 := rfl
@[sl_canon] theorem sem_2_1_15 : ((cc0_scratch5.slice (Rect.unit (s := S2x32) ![1, 15] S1x1.size inb_S2x32_S1x1_1_15)).squeeze S_ squeezes_S1x1_S_).sem = semAt (arr 2) 1 15 := rfl
@[sl_canon] theorem sem_2_1_16 : ((cc0_scratch5.slice (Rect.unit (s := S2x32) ![1, 16] S1x1.size inb_S2x32_S1x1_1_16)).squeeze S_ squeezes_S1x1_S_).sem = semAt (arr 2) 1 16 := rfl
@[sl_canon] theorem sem_2_1_17 : ((cc0_scratch5.slice (Rect.unit (s := S2x32) ![1, 17] S1x1.size inb_S2x32_S1x1_1_17)).squeeze S_ squeezes_S1x1_S_).sem = semAt (arr 2) 1 17 := rfl
@[sl_canon] theorem sem_2_1_18 : ((cc0_scratch5.slice (Rect.unit (s := S2x32) ![1, 18] S1x1.size inb_S2x32_S1x1_1_18)).squeeze S_ squeezes_S1x1_S_).sem = semAt (arr 2) 1 18 := rfl
@[sl_canon] theorem sem_2_1_19 : ((cc0_scratch5.slice (Rect.unit (s := S2x32) ![1, 19] S1x1.size inb_S2x32_S1x1_1_19)).squeeze S_ squeezes_S1x1_S_).sem = semAt (arr 2) 1 19 := rfl
@[sl_canon] theorem sem_2_1_20 : ((cc0_scratch5.slice (Rect.unit (s := S2x32) ![1, 20] S1x1.size inb_S2x32_S1x1_1_20)).squeeze S_ squeezes_S1x1_S_).sem = semAt (arr 2) 1 20 := rfl
@[sl_canon] theorem sem_2_1_21 : ((cc0_scratch5.slice (Rect.unit (s := S2x32) ![1, 21] S1x1.size inb_S2x32_S1x1_1_21)).squeeze S_ squeezes_S1x1_S_).sem = semAt (arr 2) 1 21 := rfl
@[sl_canon] theorem sem_2_1_22 : ((cc0_scratch5.slice (Rect.unit (s := S2x32) ![1, 22] S1x1.size inb_S2x32_S1x1_1_22)).squeeze S_ squeezes_S1x1_S_).sem = semAt (arr 2) 1 22 := rfl
@[sl_canon] theorem sem_2_1_23 : ((cc0_scratch5.slice (Rect.unit (s := S2x32) ![1, 23] S1x1.size inb_S2x32_S1x1_1_23)).squeeze S_ squeezes_S1x1_S_).sem = semAt (arr 2) 1 23 := rfl
@[sl_canon] theorem sem_2_1_24 : ((cc0_scratch5.slice (Rect.unit (s := S2x32) ![1, 24] S1x1.size inb_S2x32_S1x1_1_24)).squeeze S_ squeezes_S1x1_S_).sem = semAt (arr 2) 1 24 := rfl
@[sl_canon] theorem sem_2_1_25 : ((cc0_scratch5.slice (Rect.unit (s := S2x32) ![1, 25] S1x1.size inb_S2x32_S1x1_1_25)).squeeze S_ squeezes_S1x1_S_).sem = semAt (arr 2) 1 25 := rfl
@[sl_canon] theorem sem_2_1_26 : ((cc0_scratch5.slice (Rect.unit (s := S2x32) ![1, 26] S1x1.size inb_S2x32_S1x1_1_26)).squeeze S_ squeezes_S1x1_S_).sem = semAt (arr 2) 1 26 := rfl
@[sl_canon] theorem sem_2_1_27 : ((cc0_scratch5.slice (Rect.unit (s := S2x32) ![1, 27] S1x1.size inb_S2x32_S1x1_1_27)).squeeze S_ squeezes_S1x1_S_).sem = semAt (arr 2) 1 27 := rfl
@[sl_canon] theorem sem_2_1_28 : ((cc0_scratch5.slice (Rect.unit (s := S2x32) ![1, 28] S1x1.size inb_S2x32_S1x1_1_28)).squeeze S_ squeezes_S1x1_S_).sem = semAt (arr 2) 1 28 := rfl
@[sl_canon] theorem sem_2_1_29 : ((cc0_scratch5.slice (Rect.unit (s := S2x32) ![1, 29] S1x1.size inb_S2x32_S1x1_1_29)).squeeze S_ squeezes_S1x1_S_).sem = semAt (arr 2) 1 29 := rfl
@[sl_canon] theorem sem_2_1_30 : ((cc0_scratch5.slice (Rect.unit (s := S2x32) ![1, 30] S1x1.size inb_S2x32_S1x1_1_30)).squeeze S_ squeezes_S1x1_S_).sem = semAt (arr 2) 1 30 := rfl
@[sl_canon] theorem sem_2_1_31 : ((cc0_scratch5.slice (Rect.unit (s := S2x32) ![1, 31] S1x1.size inb_S2x32_S1x1_1_31)).squeeze S_ squeezes_S1x1_S_).sem = semAt (arr 2) 1 31 := rfl
@[sl_canon] theorem sem_3_0_1 : ((cc0_scratch6.slice (Rect.unit (s := S2x32) ![0, 1] S1x1.size inb_S2x32_S1x1_0_1)).squeeze S_ squeezes_S1x1_S_).sem = semAt (arr 3) 0 1 := rfl
@[sl_canon] theorem sem_3_0_2 : ((cc0_scratch6.slice (Rect.unit (s := S2x32) ![0, 2] S1x1.size inb_S2x32_S1x1_0_2)).squeeze S_ squeezes_S1x1_S_).sem = semAt (arr 3) 0 2 := rfl
@[sl_canon] theorem sem_3_0_3 : ((cc0_scratch6.slice (Rect.unit (s := S2x32) ![0, 3] S1x1.size inb_S2x32_S1x1_0_3)).squeeze S_ squeezes_S1x1_S_).sem = semAt (arr 3) 0 3 := rfl
@[sl_canon] theorem sem_3_0_4 : ((cc0_scratch6.slice (Rect.unit (s := S2x32) ![0, 4] S1x1.size inb_S2x32_S1x1_0_4)).squeeze S_ squeezes_S1x1_S_).sem = semAt (arr 3) 0 4 := rfl
@[sl_canon] theorem sem_3_0_5 : ((cc0_scratch6.slice (Rect.unit (s := S2x32) ![0, 5] S1x1.size inb_S2x32_S1x1_0_5)).squeeze S_ squeezes_S1x1_S_).sem = semAt (arr 3) 0 5 := rfl
@[sl_canon] theorem sem_3_0_6 : ((cc0_scratch6.slice (Rect.unit (s := S2x32) ![0, 6] S1x1.size inb_S2x32_S1x1_0_6)).squeeze S_ squeezes_S1x1_S_).sem = semAt (arr 3) 0 6 := rfl
@[sl_canon] theorem sem_3_0_7 : ((cc0_scratch6.slice (Rect.unit (s := S2x32) ![0, 7] S1x1.size inb_S2x32_S1x1_0_7)).squeeze S_ squeezes_S1x1_S_).sem = semAt (arr 3) 0 7 := rfl
@[sl_canon] theorem sem_3_0_8 : ((cc0_scratch6.slice (Rect.unit (s := S2x32) ![0, 8] S1x1.size inb_S2x32_S1x1_0_8)).squeeze S_ squeezes_S1x1_S_).sem = semAt (arr 3) 0 8 := rfl
@[sl_canon] theorem sem_3_0_9 : ((cc0_scratch6.slice (Rect.unit (s := S2x32) ![0, 9] S1x1.size inb_S2x32_S1x1_0_9)).squeeze S_ squeezes_S1x1_S_).sem = semAt (arr 3) 0 9 := rfl
@[sl_canon] theorem sem_3_0_10 : ((cc0_scratch6.slice (Rect.unit (s := S2x32) ![0, 10] S1x1.size inb_S2x32_S1x1_0_10)).squeeze S_ squeezes_S1x1_S_).sem = semAt (arr 3) 0 10 := rfl
@[sl_canon] theorem sem_3_0_11 : ((cc0_scratch6.slice (Rect.unit (s := S2x32) ![0, 11] S1x1.size inb_S2x32_S1x1_0_11)).squeeze S_ squeezes_S1x1_S_).sem = semAt (arr 3) 0 11 := rfl
@[sl_canon] theorem sem_3_0_12 : ((cc0_scratch6.slice (Rect.unit (s := S2x32) ![0, 12] S1x1.size inb_S2x32_S1x1_0_12)).squeeze S_ squeezes_S1x1_S_).sem = semAt (arr 3) 0 12 := rfl
@[sl_canon] theorem sem_3_0_13 : ((cc0_scratch6.slice (Rect.unit (s := S2x32) ![0, 13] S1x1.size inb_S2x32_S1x1_0_13)).squeeze S_ squeezes_S1x1_S_).sem = semAt (arr 3) 0 13 := rfl
@[sl_canon] theorem sem_3_0_14 : ((cc0_scratch6.slice (Rect.unit (s := S2x32) ![0, 14] S1x1.size inb_S2x32_S1x1_0_14)).squeeze S_ squeezes_S1x1_S_).sem = semAt (arr 3) 0 14 := rfl
@[sl_canon] theorem sem_3_0_15 : ((cc0_scratch6.slice (Rect.unit (s := S2x32) ![0, 15] S1x1.size inb_S2x32_S1x1_0_15)).squeeze S_ squeezes_S1x1_S_).sem = semAt (arr 3) 0 15 := rfl
@[sl_canon] theorem sem_3_0_16 : ((cc0_scratch6.slice (Rect.unit (s := S2x32) ![0, 16] S1x1.size inb_S2x32_S1x1_0_16)).squeeze S_ squeezes_S1x1_S_).sem = semAt (arr 3) 0 16 := rfl
@[sl_canon] theorem sem_3_0_17 : ((cc0_scratch6.slice (Rect.unit (s := S2x32) ![0, 17] S1x1.size inb_S2x32_S1x1_0_17)).squeeze S_ squeezes_S1x1_S_).sem = semAt (arr 3) 0 17 := rfl
@[sl_canon] theorem sem_3_0_18 : ((cc0_scratch6.slice (Rect.unit (s := S2x32) ![0, 18] S1x1.size inb_S2x32_S1x1_0_18)).squeeze S_ squeezes_S1x1_S_).sem = semAt (arr 3) 0 18 := rfl
@[sl_canon] theorem sem_3_0_19 : ((cc0_scratch6.slice (Rect.unit (s := S2x32) ![0, 19] S1x1.size inb_S2x32_S1x1_0_19)).squeeze S_ squeezes_S1x1_S_).sem = semAt (arr 3) 0 19 := rfl
@[sl_canon] theorem sem_3_0_20 : ((cc0_scratch6.slice (Rect.unit (s := S2x32) ![0, 20] S1x1.size inb_S2x32_S1x1_0_20)).squeeze S_ squeezes_S1x1_S_).sem = semAt (arr 3) 0 20 := rfl
@[sl_canon] theorem sem_3_0_21 : ((cc0_scratch6.slice (Rect.unit (s := S2x32) ![0, 21] S1x1.size inb_S2x32_S1x1_0_21)).squeeze S_ squeezes_S1x1_S_).sem = semAt (arr 3) 0 21 := rfl
@[sl_canon] theorem sem_3_0_22 : ((cc0_scratch6.slice (Rect.unit (s := S2x32) ![0, 22] S1x1.size inb_S2x32_S1x1_0_22)).squeeze S_ squeezes_S1x1_S_).sem = semAt (arr 3) 0 22 := rfl
@[sl_canon] theorem sem_3_0_23 : ((cc0_scratch6.slice (Rect.unit (s := S2x32) ![0, 23] S1x1.size inb_S2x32_S1x1_0_23)).squeeze S_ squeezes_S1x1_S_).sem = semAt (arr 3) 0 23 := rfl
@[sl_canon] theorem sem_3_0_24 : ((cc0_scratch6.slice (Rect.unit (s := S2x32) ![0, 24] S1x1.size inb_S2x32_S1x1_0_24)).squeeze S_ squeezes_S1x1_S_).sem = semAt (arr 3) 0 24 := rfl
@[sl_canon] theorem sem_3_0_25 : ((cc0_scratch6.slice (Rect.unit (s := S2x32) ![0, 25] S1x1.size inb_S2x32_S1x1_0_25)).squeeze S_ squeezes_S1x1_S_).sem = semAt (arr 3) 0 25 := rfl
@[sl_canon] theorem sem_3_0_26 : ((cc0_scratch6.slice (Rect.unit (s := S2x32) ![0, 26] S1x1.size inb_S2x32_S1x1_0_26)).squeeze S_ squeezes_S1x1_S_).sem = semAt (arr 3) 0 26 := rfl
@[sl_canon] theorem sem_3_0_27 : ((cc0_scratch6.slice (Rect.unit (s := S2x32) ![0, 27] S1x1.size inb_S2x32_S1x1_0_27)).squeeze S_ squeezes_S1x1_S_).sem = semAt (arr 3) 0 27 := rfl
@[sl_canon] theorem sem_3_0_28 : ((cc0_scratch6.slice (Rect.unit (s := S2x32) ![0, 28] S1x1.size inb_S2x32_S1x1_0_28)).squeeze S_ squeezes_S1x1_S_).sem = semAt (arr 3) 0 28 := rfl
@[sl_canon] theorem sem_3_0_29 : ((cc0_scratch6.slice (Rect.unit (s := S2x32) ![0, 29] S1x1.size inb_S2x32_S1x1_0_29)).squeeze S_ squeezes_S1x1_S_).sem = semAt (arr 3) 0 29 := rfl
@[sl_canon] theorem sem_3_0_30 : ((cc0_scratch6.slice (Rect.unit (s := S2x32) ![0, 30] S1x1.size inb_S2x32_S1x1_0_30)).squeeze S_ squeezes_S1x1_S_).sem = semAt (arr 3) 0 30 := rfl
@[sl_canon] theorem sem_3_0_31 : ((cc0_scratch6.slice (Rect.unit (s := S2x32) ![0, 31] S1x1.size inb_S2x32_S1x1_0_31)).squeeze S_ squeezes_S1x1_S_).sem = semAt (arr 3) 0 31 := rfl
@[sl_canon] theorem sem_3_1_1 : ((cc0_scratch6.slice (Rect.unit (s := S2x32) ![1, 1] S1x1.size inb_S2x32_S1x1_1_1)).squeeze S_ squeezes_S1x1_S_).sem = semAt (arr 3) 1 1 := rfl
@[sl_canon] theorem sem_3_1_2 : ((cc0_scratch6.slice (Rect.unit (s := S2x32) ![1, 2] S1x1.size inb_S2x32_S1x1_1_2)).squeeze S_ squeezes_S1x1_S_).sem = semAt (arr 3) 1 2 := rfl
@[sl_canon] theorem sem_3_1_3 : ((cc0_scratch6.slice (Rect.unit (s := S2x32) ![1, 3] S1x1.size inb_S2x32_S1x1_1_3)).squeeze S_ squeezes_S1x1_S_).sem = semAt (arr 3) 1 3 := rfl
@[sl_canon] theorem sem_3_1_4 : ((cc0_scratch6.slice (Rect.unit (s := S2x32) ![1, 4] S1x1.size inb_S2x32_S1x1_1_4)).squeeze S_ squeezes_S1x1_S_).sem = semAt (arr 3) 1 4 := rfl
@[sl_canon] theorem sem_3_1_5 : ((cc0_scratch6.slice (Rect.unit (s := S2x32) ![1, 5] S1x1.size inb_S2x32_S1x1_1_5)).squeeze S_ squeezes_S1x1_S_).sem = semAt (arr 3) 1 5 := rfl
@[sl_canon] theorem sem_3_1_6 : ((cc0_scratch6.slice (Rect.unit (s := S2x32) ![1, 6] S1x1.size inb_S2x32_S1x1_1_6)).squeeze S_ squeezes_S1x1_S_).sem = semAt (arr 3) 1 6 := rfl
@[sl_canon] theorem sem_3_1_7 : ((cc0_scratch6.slice (Rect.unit (s := S2x32) ![1, 7] S1x1.size inb_S2x32_S1x1_1_7)).squeeze S_ squeezes_S1x1_S_).sem = semAt (arr 3) 1 7 := rfl
@[sl_canon] theorem sem_3_1_8 : ((cc0_scratch6.slice (Rect.unit (s := S2x32) ![1, 8] S1x1.size inb_S2x32_S1x1_1_8)).squeeze S_ squeezes_S1x1_S_).sem = semAt (arr 3) 1 8 := rfl
@[sl_canon] theorem sem_3_1_9 : ((cc0_scratch6.slice (Rect.unit (s := S2x32) ![1, 9] S1x1.size inb_S2x32_S1x1_1_9)).squeeze S_ squeezes_S1x1_S_).sem = semAt (arr 3) 1 9 := rfl
@[sl_canon] theorem sem_3_1_10 : ((cc0_scratch6.slice (Rect.unit (s := S2x32) ![1, 10] S1x1.size inb_S2x32_S1x1_1_10)).squeeze S_ squeezes_S1x1_S_).sem = semAt (arr 3) 1 10 := rfl
@[sl_canon] theorem sem_3_1_11 : ((cc0_scratch6.slice (Rect.unit (s := S2x32) ![1, 11] S1x1.size inb_S2x32_S1x1_1_11)).squeeze S_ squeezes_S1x1_S_).sem = semAt (arr 3) 1 11 := rfl
@[sl_canon] theorem sem_3_1_12 : ((cc0_scratch6.slice (Rect.unit (s := S2x32) ![1, 12] S1x1.size inb_S2x32_S1x1_1_12)).squeeze S_ squeezes_S1x1_S_).sem = semAt (arr 3) 1 12 := rfl
@[sl_canon] theorem sem_3_1_13 : ((cc0_scratch6.slice (Rect.unit (s := S2x32) ![1, 13] S1x1.size inb_S2x32_S1x1_1_13)).squeeze S_ squeezes_S1x1_S_).sem = semAt (arr 3) 1 13 := rfl
@[sl_canon] theorem sem_3_1_14 : ((cc0_scratch6.slice (Rect.unit (s := S2x32) ![1, 14] S1x1.size inb_S2x32_S1x1_1_14)).squeeze S_ squeezes_S1x1_S_).sem = semAt (arr 3) 1 14 := rfl
@[sl_canon] theorem sem_3_1_15 : ((cc0_scratch6.slice (Rect.unit (s := S2x32) ![1, 15] S1x1.size inb_S2x32_S1x1_1_15)).squeeze S_ squeezes_S1x1_S_).sem = semAt (arr 3) 1 15 := rfl
@[sl_canon] theorem sem_3_1_16 : ((cc0_scratch6.slice (Rect.unit (s := S2x32) ![1, 16] S1x1.size inb_S2x32_S1x1_1_16)).squeeze S_ squeezes_S1x1_S_).sem = semAt (arr 3) 1 16 := rfl
@[sl_canon] theorem sem_3_1_17 : ((cc0_scratch6.slice (Rect.unit (s := S2x32) ![1, 17] S1x1.size inb_S2x32_S1x1_1_17)).squeeze S_ squeezes_S1x1_S_).sem = semAt (arr 3) 1 17 := rfl
@[sl_canon] theorem sem_3_1_18 : ((cc0_scratch6.slice (Rect.unit (s := S2x32) ![1, 18] S1x1.size inb_S2x32_S1x1_1_18)).squeeze S_ squeezes_S1x1_S_).sem = semAt (arr 3) 1 18 := rfl
@[sl_canon] theorem sem_3_1_19 : ((cc0_scratch6.slice (Rect.unit (s := S2x32) ![1, 19] S1x1.size inb_S2x32_S1x1_1_19)).squeeze S_ squeezes_S1x1_S_).sem = semAt (arr 3) 1 19 := rfl
@[sl_canon] theorem sem_3_1_20 : ((cc0_scratch6.slice (Rect.unit (s := S2x32) ![1, 20] S1x1.size inb_S2x32_S1x1_1_20)).squeeze S_ squeezes_S1x1_S_).sem = semAt (arr 3) 1 20 := rfl
@[sl_canon] theorem sem_3_1_21 : ((cc0_scratch6.slice (Rect.unit (s := S2x32) ![1, 21] S1x1.size inb_S2x32_S1x1_1_21)).squeeze S_ squeezes_S1x1_S_).sem = semAt (arr 3) 1 21 := rfl
@[sl_canon] theorem sem_3_1_22 : ((cc0_scratch6.slice (Rect.unit (s := S2x32) ![1, 22] S1x1.size inb_S2x32_S1x1_1_22)).squeeze S_ squeezes_S1x1_S_).sem = semAt (arr 3) 1 22 := rfl
@[sl_canon] theorem sem_3_1_23 : ((cc0_scratch6.slice (Rect.unit (s := S2x32) ![1, 23] S1x1.size inb_S2x32_S1x1_1_23)).squeeze S_ squeezes_S1x1_S_).sem = semAt (arr 3) 1 23 := rfl
@[sl_canon] theorem sem_3_1_24 : ((cc0_scratch6.slice (Rect.unit (s := S2x32) ![1, 24] S1x1.size inb_S2x32_S1x1_1_24)).squeeze S_ squeezes_S1x1_S_).sem = semAt (arr 3) 1 24 := rfl
@[sl_canon] theorem sem_3_1_25 : ((cc0_scratch6.slice (Rect.unit (s := S2x32) ![1, 25] S1x1.size inb_S2x32_S1x1_1_25)).squeeze S_ squeezes_S1x1_S_).sem = semAt (arr 3) 1 25 := rfl
@[sl_canon] theorem sem_3_1_26 : ((cc0_scratch6.slice (Rect.unit (s := S2x32) ![1, 26] S1x1.size inb_S2x32_S1x1_1_26)).squeeze S_ squeezes_S1x1_S_).sem = semAt (arr 3) 1 26 := rfl
@[sl_canon] theorem sem_3_1_27 : ((cc0_scratch6.slice (Rect.unit (s := S2x32) ![1, 27] S1x1.size inb_S2x32_S1x1_1_27)).squeeze S_ squeezes_S1x1_S_).sem = semAt (arr 3) 1 27 := rfl
@[sl_canon] theorem sem_3_1_28 : ((cc0_scratch6.slice (Rect.unit (s := S2x32) ![1, 28] S1x1.size inb_S2x32_S1x1_1_28)).squeeze S_ squeezes_S1x1_S_).sem = semAt (arr 3) 1 28 := rfl
@[sl_canon] theorem sem_3_1_29 : ((cc0_scratch6.slice (Rect.unit (s := S2x32) ![1, 29] S1x1.size inb_S2x32_S1x1_1_29)).squeeze S_ squeezes_S1x1_S_).sem = semAt (arr 3) 1 29 := rfl
@[sl_canon] theorem sem_3_1_30 : ((cc0_scratch6.slice (Rect.unit (s := S2x32) ![1, 30] S1x1.size inb_S2x32_S1x1_1_30)).squeeze S_ squeezes_S1x1_S_).sem = semAt (arr 3) 1 30 := rfl
@[sl_canon] theorem sem_3_1_31 : ((cc0_scratch6.slice (Rect.unit (s := S2x32) ![1, 31] S1x1.size inb_S2x32_S1x1_1_31)).squeeze S_ squeezes_S1x1_S_).sem = semAt (arr 3) 1 31 := rfl

/-! ## The peers -/

@[sl_canon] theorem dev1_eq (c : Dev nD) : (⟨k0_dev1 c, k0_dev1_lt c⟩ : Dev nD) = fwd c 1 := Fin.ext (k0_dev1_eq c)
@[sl_canon] theorem dev2_eq (c : Dev nD) : (⟨k0_dev2 c, k0_dev2_lt c⟩ : Dev nD) = fwd c 2 := Fin.ext (k0_dev2_eq c)
@[sl_canon] theorem dev3_eq (c : Dev nD) : (⟨k0_dev3 c, k0_dev3_lt c⟩ : Dev nD) = fwd c 3 := Fin.ext (k0_dev3_eq c)
@[sl_canon] theorem dev4_eq (c : Dev nD) : (⟨k0_dev4 c, k0_dev4_lt c⟩ : Dev nD) = fwd c 4 := Fin.ext (k0_dev4_eq c)
@[sl_canon] theorem dev5_eq (c : Dev nD) : (⟨k0_dev5 c, k0_dev5_lt c⟩ : Dev nD) = fwd c 5 := Fin.ext (k0_dev5_eq c)
@[sl_canon] theorem dev6_eq (c : Dev nD) : (⟨k0_dev6 c, k0_dev6_lt c⟩ : Dev nD) = fwd c 6 := Fin.ext (k0_dev6_eq c)
@[sl_canon] theorem dev7_eq (c : Dev nD) : (⟨k0_dev7 c, k0_dev7_lt c⟩ : Dev nD) = fwd c 7 := Fin.ext (k0_dev7_eq c)
@[sl_canon] theorem dev8_eq (c : Dev nD) : (⟨k0_dev8 c, k0_dev8_lt c⟩ : Dev nD) = fwd c 8 := Fin.ext (k0_dev8_eq c)
@[sl_canon] theorem dev9_eq (c : Dev nD) : (⟨k0_dev9 c, k0_dev9_lt c⟩ : Dev nD) = fwd c 9 := Fin.ext (k0_dev9_eq c)
@[sl_canon] theorem dev10_eq (c : Dev nD) : (⟨k0_dev10 c, k0_dev10_lt c⟩ : Dev nD) = fwd c 10 := Fin.ext (k0_dev10_eq c)
@[sl_canon] theorem dev11_eq (c : Dev nD) : (⟨k0_dev11 c, k0_dev11_lt c⟩ : Dev nD) = fwd c 11 := Fin.ext (k0_dev11_eq c)
@[sl_canon] theorem dev12_eq (c : Dev nD) : (⟨k0_dev12 c, k0_dev12_lt c⟩ : Dev nD) = fwd c 12 := Fin.ext (k0_dev12_eq c)
@[sl_canon] theorem dev13_eq (c : Dev nD) : (⟨k0_dev13 c, k0_dev13_lt c⟩ : Dev nD) = fwd c 13 := Fin.ext (k0_dev13_eq c)
@[sl_canon] theorem dev14_eq (c : Dev nD) : (⟨k0_dev14 c, k0_dev14_lt c⟩ : Dev nD) = fwd c 14 := Fin.ext (k0_dev14_eq c)
@[sl_canon] theorem dev15_eq (c : Dev nD) : (⟨k0_dev15 c, k0_dev15_lt c⟩ : Dev nD) = fwd c 15 := Fin.ext (k0_dev15_eq c)
@[sl_canon] theorem dev16_eq (c : Dev nD) : (⟨k0_dev16 c, k0_dev16_lt c⟩ : Dev nD) = fwd c 16 := Fin.ext (k0_dev16_eq c)
@[sl_canon] theorem dev17_eq (c : Dev nD) : (⟨k0_dev17 c, k0_dev17_lt c⟩ : Dev nD) = fwd c 17 := Fin.ext (k0_dev17_eq c)
@[sl_canon] theorem dev18_eq (c : Dev nD) : (⟨k0_dev18 c, k0_dev18_lt c⟩ : Dev nD) = fwd c 18 := Fin.ext (k0_dev18_eq c)
@[sl_canon] theorem dev19_eq (c : Dev nD) : (⟨k0_dev19 c, k0_dev19_lt c⟩ : Dev nD) = fwd c 19 := Fin.ext (k0_dev19_eq c)
@[sl_canon] theorem dev20_eq (c : Dev nD) : (⟨k0_dev20 c, k0_dev20_lt c⟩ : Dev nD) = fwd c 20 := Fin.ext (k0_dev20_eq c)
@[sl_canon] theorem dev21_eq (c : Dev nD) : (⟨k0_dev21 c, k0_dev21_lt c⟩ : Dev nD) = fwd c 21 := Fin.ext (k0_dev21_eq c)
@[sl_canon] theorem dev22_eq (c : Dev nD) : (⟨k0_dev22 c, k0_dev22_lt c⟩ : Dev nD) = fwd c 22 := Fin.ext (k0_dev22_eq c)
@[sl_canon] theorem dev23_eq (c : Dev nD) : (⟨k0_dev23 c, k0_dev23_lt c⟩ : Dev nD) = fwd c 23 := Fin.ext (k0_dev23_eq c)
@[sl_canon] theorem dev24_eq (c : Dev nD) : (⟨k0_dev24 c, k0_dev24_lt c⟩ : Dev nD) = fwd c 24 := Fin.ext (k0_dev24_eq c)
@[sl_canon] theorem dev25_eq (c : Dev nD) : (⟨k0_dev25 c, k0_dev25_lt c⟩ : Dev nD) = fwd c 25 := Fin.ext (k0_dev25_eq c)
@[sl_canon] theorem dev26_eq (c : Dev nD) : (⟨k0_dev26 c, k0_dev26_lt c⟩ : Dev nD) = fwd c 26 := Fin.ext (k0_dev26_eq c)
@[sl_canon] theorem dev27_eq (c : Dev nD) : (⟨k0_dev27 c, k0_dev27_lt c⟩ : Dev nD) = fwd c 27 := Fin.ext (k0_dev27_eq c)
@[sl_canon] theorem dev28_eq (c : Dev nD) : (⟨k0_dev28 c, k0_dev28_lt c⟩ : Dev nD) = fwd c 28 := Fin.ext (k0_dev28_eq c)
@[sl_canon] theorem dev29_eq (c : Dev nD) : (⟨k0_dev29 c, k0_dev29_lt c⟩ : Dev nD) = fwd c 29 := Fin.ext (k0_dev29_eq c)
@[sl_canon] theorem dev30_eq (c : Dev nD) : (⟨k0_dev30 c, k0_dev30_lt c⟩ : Dev nD) = fwd c 30 := Fin.ext (k0_dev30_eq c)
@[sl_canon] theorem dev31_eq (c : Dev nD) : (⟨k0_dev31 c, k0_dev31_lt c⟩ : Dev nD) = fwd c 31 := Fin.ext (k0_dev31_eq c)
@[sl_canon] theorem dev32_eq (c : Dev nD) : (⟨k0_dev32 c, k0_dev32_lt c⟩ : Dev nD) = fwd c 1 := Fin.ext (k0_dev32_eq c)
@[sl_canon] theorem dev33_eq (c : Dev nD) : (⟨k0_dev33 c, k0_dev33_lt c⟩ : Dev nD) = fwd c 2 := Fin.ext (k0_dev33_eq c)
@[sl_canon] theorem dev34_eq (c : Dev nD) : (⟨k0_dev34 c, k0_dev34_lt c⟩ : Dev nD) = fwd c 3 := Fin.ext (k0_dev34_eq c)
@[sl_canon] theorem dev35_eq (c : Dev nD) : (⟨k0_dev35 c, k0_dev35_lt c⟩ : Dev nD) = fwd c 4 := Fin.ext (k0_dev35_eq c)
@[sl_canon] theorem dev36_eq (c : Dev nD) : (⟨k0_dev36 c, k0_dev36_lt c⟩ : Dev nD) = fwd c 5 := Fin.ext (k0_dev36_eq c)
@[sl_canon] theorem dev37_eq (c : Dev nD) : (⟨k0_dev37 c, k0_dev37_lt c⟩ : Dev nD) = fwd c 6 := Fin.ext (k0_dev37_eq c)
@[sl_canon] theorem dev38_eq (c : Dev nD) : (⟨k0_dev38 c, k0_dev38_lt c⟩ : Dev nD) = fwd c 7 := Fin.ext (k0_dev38_eq c)
@[sl_canon] theorem dev39_eq (c : Dev nD) : (⟨k0_dev39 c, k0_dev39_lt c⟩ : Dev nD) = fwd c 8 := Fin.ext (k0_dev39_eq c)
@[sl_canon] theorem dev40_eq (c : Dev nD) : (⟨k0_dev40 c, k0_dev40_lt c⟩ : Dev nD) = fwd c 9 := Fin.ext (k0_dev40_eq c)
@[sl_canon] theorem dev41_eq (c : Dev nD) : (⟨k0_dev41 c, k0_dev41_lt c⟩ : Dev nD) = fwd c 10 := Fin.ext (k0_dev41_eq c)
@[sl_canon] theorem dev42_eq (c : Dev nD) : (⟨k0_dev42 c, k0_dev42_lt c⟩ : Dev nD) = fwd c 11 := Fin.ext (k0_dev42_eq c)
@[sl_canon] theorem dev43_eq (c : Dev nD) : (⟨k0_dev43 c, k0_dev43_lt c⟩ : Dev nD) = fwd c 12 := Fin.ext (k0_dev43_eq c)
@[sl_canon] theorem dev44_eq (c : Dev nD) : (⟨k0_dev44 c, k0_dev44_lt c⟩ : Dev nD) = fwd c 13 := Fin.ext (k0_dev44_eq c)
@[sl_canon] theorem dev45_eq (c : Dev nD) : (⟨k0_dev45 c, k0_dev45_lt c⟩ : Dev nD) = fwd c 14 := Fin.ext (k0_dev45_eq c)
@[sl_canon] theorem dev46_eq (c : Dev nD) : (⟨k0_dev46 c, k0_dev46_lt c⟩ : Dev nD) = fwd c 15 := Fin.ext (k0_dev46_eq c)
@[sl_canon] theorem dev47_eq (c : Dev nD) : (⟨k0_dev47 c, k0_dev47_lt c⟩ : Dev nD) = fwd c 16 := Fin.ext (k0_dev47_eq c)
@[sl_canon] theorem dev48_eq (c : Dev nD) : (⟨k0_dev48 c, k0_dev48_lt c⟩ : Dev nD) = fwd c 17 := Fin.ext (k0_dev48_eq c)
@[sl_canon] theorem dev49_eq (c : Dev nD) : (⟨k0_dev49 c, k0_dev49_lt c⟩ : Dev nD) = fwd c 18 := Fin.ext (k0_dev49_eq c)
@[sl_canon] theorem dev50_eq (c : Dev nD) : (⟨k0_dev50 c, k0_dev50_lt c⟩ : Dev nD) = fwd c 19 := Fin.ext (k0_dev50_eq c)
@[sl_canon] theorem dev51_eq (c : Dev nD) : (⟨k0_dev51 c, k0_dev51_lt c⟩ : Dev nD) = fwd c 20 := Fin.ext (k0_dev51_eq c)
@[sl_canon] theorem dev52_eq (c : Dev nD) : (⟨k0_dev52 c, k0_dev52_lt c⟩ : Dev nD) = fwd c 21 := Fin.ext (k0_dev52_eq c)
@[sl_canon] theorem dev53_eq (c : Dev nD) : (⟨k0_dev53 c, k0_dev53_lt c⟩ : Dev nD) = fwd c 22 := Fin.ext (k0_dev53_eq c)
@[sl_canon] theorem dev54_eq (c : Dev nD) : (⟨k0_dev54 c, k0_dev54_lt c⟩ : Dev nD) = fwd c 23 := Fin.ext (k0_dev54_eq c)
@[sl_canon] theorem dev55_eq (c : Dev nD) : (⟨k0_dev55 c, k0_dev55_lt c⟩ : Dev nD) = fwd c 24 := Fin.ext (k0_dev55_eq c)
@[sl_canon] theorem dev56_eq (c : Dev nD) : (⟨k0_dev56 c, k0_dev56_lt c⟩ : Dev nD) = fwd c 25 := Fin.ext (k0_dev56_eq c)
@[sl_canon] theorem dev57_eq (c : Dev nD) : (⟨k0_dev57 c, k0_dev57_lt c⟩ : Dev nD) = fwd c 26 := Fin.ext (k0_dev57_eq c)
@[sl_canon] theorem dev58_eq (c : Dev nD) : (⟨k0_dev58 c, k0_dev58_lt c⟩ : Dev nD) = fwd c 27 := Fin.ext (k0_dev58_eq c)
@[sl_canon] theorem dev59_eq (c : Dev nD) : (⟨k0_dev59 c, k0_dev59_lt c⟩ : Dev nD) = fwd c 28 := Fin.ext (k0_dev59_eq c)
@[sl_canon] theorem dev60_eq (c : Dev nD) : (⟨k0_dev60 c, k0_dev60_lt c⟩ : Dev nD) = fwd c 29 := Fin.ext (k0_dev60_eq c)
@[sl_canon] theorem dev61_eq (c : Dev nD) : (⟨k0_dev61 c, k0_dev61_lt c⟩ : Dev nD) = fwd c 30 := Fin.ext (k0_dev61_eq c)
@[sl_canon] theorem dev62_eq (c : Dev nD) : (⟨k0_dev62 c, k0_dev62_lt c⟩ : Dev nD) = fwd c 31 := Fin.ext (k0_dev62_eq c)
@[sl_canon] theorem dev63_eq (c : Dev nD) : (⟨k0_dev63 c, k0_dev63_lt c⟩ : Dev nD) = fwd c 1 := Fin.ext (k0_dev63_eq c)
@[sl_canon] theorem dev64_eq (c : Dev nD) : (⟨k0_dev64 c, k0_dev64_lt c⟩ : Dev nD) = fwd c 2 := Fin.ext (k0_dev64_eq c)
@[sl_canon] theorem dev65_eq (c : Dev nD) : (⟨k0_dev65 c, k0_dev65_lt c⟩ : Dev nD) = fwd c 3 := Fin.ext (k0_dev65_eq c)
@[sl_canon] theorem dev66_eq (c : Dev nD) : (⟨k0_dev66 c, k0_dev66_lt c⟩ : Dev nD) = fwd c 4 := Fin.ext (k0_dev66_eq c)
@[sl_canon] theorem dev67_eq (c : Dev nD) : (⟨k0_dev67 c, k0_dev67_lt c⟩ : Dev nD) = fwd c 5 := Fin.ext (k0_dev67_eq c)
@[sl_canon] theorem dev68_eq (c : Dev nD) : (⟨k0_dev68 c, k0_dev68_lt c⟩ : Dev nD) = fwd c 6 := Fin.ext (k0_dev68_eq c)
@[sl_canon] theorem dev69_eq (c : Dev nD) : (⟨k0_dev69 c, k0_dev69_lt c⟩ : Dev nD) = fwd c 7 := Fin.ext (k0_dev69_eq c)
@[sl_canon] theorem dev70_eq (c : Dev nD) : (⟨k0_dev70 c, k0_dev70_lt c⟩ : Dev nD) = fwd c 8 := Fin.ext (k0_dev70_eq c)
@[sl_canon] theorem dev71_eq (c : Dev nD) : (⟨k0_dev71 c, k0_dev71_lt c⟩ : Dev nD) = fwd c 9 := Fin.ext (k0_dev71_eq c)
@[sl_canon] theorem dev72_eq (c : Dev nD) : (⟨k0_dev72 c, k0_dev72_lt c⟩ : Dev nD) = fwd c 10 := Fin.ext (k0_dev72_eq c)
@[sl_canon] theorem dev73_eq (c : Dev nD) : (⟨k0_dev73 c, k0_dev73_lt c⟩ : Dev nD) = fwd c 11 := Fin.ext (k0_dev73_eq c)
@[sl_canon] theorem dev74_eq (c : Dev nD) : (⟨k0_dev74 c, k0_dev74_lt c⟩ : Dev nD) = fwd c 12 := Fin.ext (k0_dev74_eq c)
@[sl_canon] theorem dev75_eq (c : Dev nD) : (⟨k0_dev75 c, k0_dev75_lt c⟩ : Dev nD) = fwd c 13 := Fin.ext (k0_dev75_eq c)
@[sl_canon] theorem dev76_eq (c : Dev nD) : (⟨k0_dev76 c, k0_dev76_lt c⟩ : Dev nD) = fwd c 14 := Fin.ext (k0_dev76_eq c)
@[sl_canon] theorem dev77_eq (c : Dev nD) : (⟨k0_dev77 c, k0_dev77_lt c⟩ : Dev nD) = fwd c 15 := Fin.ext (k0_dev77_eq c)
@[sl_canon] theorem dev78_eq (c : Dev nD) : (⟨k0_dev78 c, k0_dev78_lt c⟩ : Dev nD) = fwd c 16 := Fin.ext (k0_dev78_eq c)
@[sl_canon] theorem dev79_eq (c : Dev nD) : (⟨k0_dev79 c, k0_dev79_lt c⟩ : Dev nD) = fwd c 17 := Fin.ext (k0_dev79_eq c)
@[sl_canon] theorem dev80_eq (c : Dev nD) : (⟨k0_dev80 c, k0_dev80_lt c⟩ : Dev nD) = fwd c 18 := Fin.ext (k0_dev80_eq c)
@[sl_canon] theorem dev81_eq (c : Dev nD) : (⟨k0_dev81 c, k0_dev81_lt c⟩ : Dev nD) = fwd c 19 := Fin.ext (k0_dev81_eq c)
@[sl_canon] theorem dev82_eq (c : Dev nD) : (⟨k0_dev82 c, k0_dev82_lt c⟩ : Dev nD) = fwd c 20 := Fin.ext (k0_dev82_eq c)
@[sl_canon] theorem dev83_eq (c : Dev nD) : (⟨k0_dev83 c, k0_dev83_lt c⟩ : Dev nD) = fwd c 21 := Fin.ext (k0_dev83_eq c)
@[sl_canon] theorem dev84_eq (c : Dev nD) : (⟨k0_dev84 c, k0_dev84_lt c⟩ : Dev nD) = fwd c 22 := Fin.ext (k0_dev84_eq c)
@[sl_canon] theorem dev85_eq (c : Dev nD) : (⟨k0_dev85 c, k0_dev85_lt c⟩ : Dev nD) = fwd c 23 := Fin.ext (k0_dev85_eq c)
@[sl_canon] theorem dev86_eq (c : Dev nD) : (⟨k0_dev86 c, k0_dev86_lt c⟩ : Dev nD) = fwd c 24 := Fin.ext (k0_dev86_eq c)
@[sl_canon] theorem dev87_eq (c : Dev nD) : (⟨k0_dev87 c, k0_dev87_lt c⟩ : Dev nD) = fwd c 25 := Fin.ext (k0_dev87_eq c)
@[sl_canon] theorem dev88_eq (c : Dev nD) : (⟨k0_dev88 c, k0_dev88_lt c⟩ : Dev nD) = fwd c 26 := Fin.ext (k0_dev88_eq c)
@[sl_canon] theorem dev89_eq (c : Dev nD) : (⟨k0_dev89 c, k0_dev89_lt c⟩ : Dev nD) = fwd c 27 := Fin.ext (k0_dev89_eq c)
@[sl_canon] theorem dev90_eq (c : Dev nD) : (⟨k0_dev90 c, k0_dev90_lt c⟩ : Dev nD) = fwd c 28 := Fin.ext (k0_dev90_eq c)
@[sl_canon] theorem dev91_eq (c : Dev nD) : (⟨k0_dev91 c, k0_dev91_lt c⟩ : Dev nD) = fwd c 29 := Fin.ext (k0_dev91_eq c)
@[sl_canon] theorem dev92_eq (c : Dev nD) : (⟨k0_dev92 c, k0_dev92_lt c⟩ : Dev nD) = fwd c 30 := Fin.ext (k0_dev92_eq c)
@[sl_canon] theorem dev93_eq (c : Dev nD) : (⟨k0_dev93 c, k0_dev93_lt c⟩ : Dev nD) = fwd c 31 := Fin.ext (k0_dev93_eq c)
@[sl_canon] theorem dev94_eq (c : Dev nD) : (⟨k0_dev94 c, k0_dev94_lt c⟩ : Dev nD) = fwd c 1 := Fin.ext (k0_dev94_eq c)
@[sl_canon] theorem dev95_eq (c : Dev nD) : (⟨k0_dev95 c, k0_dev95_lt c⟩ : Dev nD) = fwd c 2 := Fin.ext (k0_dev95_eq c)
@[sl_canon] theorem dev96_eq (c : Dev nD) : (⟨k0_dev96 c, k0_dev96_lt c⟩ : Dev nD) = fwd c 3 := Fin.ext (k0_dev96_eq c)
@[sl_canon] theorem dev97_eq (c : Dev nD) : (⟨k0_dev97 c, k0_dev97_lt c⟩ : Dev nD) = fwd c 4 := Fin.ext (k0_dev97_eq c)
@[sl_canon] theorem dev98_eq (c : Dev nD) : (⟨k0_dev98 c, k0_dev98_lt c⟩ : Dev nD) = fwd c 5 := Fin.ext (k0_dev98_eq c)
@[sl_canon] theorem dev99_eq (c : Dev nD) : (⟨k0_dev99 c, k0_dev99_lt c⟩ : Dev nD) = fwd c 6 := Fin.ext (k0_dev99_eq c)
@[sl_canon] theorem dev100_eq (c : Dev nD) : (⟨k0_dev100 c, k0_dev100_lt c⟩ : Dev nD) = fwd c 7 := Fin.ext (k0_dev100_eq c)
@[sl_canon] theorem dev101_eq (c : Dev nD) : (⟨k0_dev101 c, k0_dev101_lt c⟩ : Dev nD) = fwd c 8 := Fin.ext (k0_dev101_eq c)
@[sl_canon] theorem dev102_eq (c : Dev nD) : (⟨k0_dev102 c, k0_dev102_lt c⟩ : Dev nD) = fwd c 9 := Fin.ext (k0_dev102_eq c)
@[sl_canon] theorem dev103_eq (c : Dev nD) : (⟨k0_dev103 c, k0_dev103_lt c⟩ : Dev nD) = fwd c 10 := Fin.ext (k0_dev103_eq c)
@[sl_canon] theorem dev104_eq (c : Dev nD) : (⟨k0_dev104 c, k0_dev104_lt c⟩ : Dev nD) = fwd c 11 := Fin.ext (k0_dev104_eq c)
@[sl_canon] theorem dev105_eq (c : Dev nD) : (⟨k0_dev105 c, k0_dev105_lt c⟩ : Dev nD) = fwd c 12 := Fin.ext (k0_dev105_eq c)
@[sl_canon] theorem dev106_eq (c : Dev nD) : (⟨k0_dev106 c, k0_dev106_lt c⟩ : Dev nD) = fwd c 13 := Fin.ext (k0_dev106_eq c)
@[sl_canon] theorem dev107_eq (c : Dev nD) : (⟨k0_dev107 c, k0_dev107_lt c⟩ : Dev nD) = fwd c 14 := Fin.ext (k0_dev107_eq c)
@[sl_canon] theorem dev108_eq (c : Dev nD) : (⟨k0_dev108 c, k0_dev108_lt c⟩ : Dev nD) = fwd c 15 := Fin.ext (k0_dev108_eq c)
@[sl_canon] theorem dev109_eq (c : Dev nD) : (⟨k0_dev109 c, k0_dev109_lt c⟩ : Dev nD) = fwd c 16 := Fin.ext (k0_dev109_eq c)
@[sl_canon] theorem dev110_eq (c : Dev nD) : (⟨k0_dev110 c, k0_dev110_lt c⟩ : Dev nD) = fwd c 17 := Fin.ext (k0_dev110_eq c)
@[sl_canon] theorem dev111_eq (c : Dev nD) : (⟨k0_dev111 c, k0_dev111_lt c⟩ : Dev nD) = fwd c 18 := Fin.ext (k0_dev111_eq c)
@[sl_canon] theorem dev112_eq (c : Dev nD) : (⟨k0_dev112 c, k0_dev112_lt c⟩ : Dev nD) = fwd c 19 := Fin.ext (k0_dev112_eq c)
@[sl_canon] theorem dev113_eq (c : Dev nD) : (⟨k0_dev113 c, k0_dev113_lt c⟩ : Dev nD) = fwd c 20 := Fin.ext (k0_dev113_eq c)
@[sl_canon] theorem dev114_eq (c : Dev nD) : (⟨k0_dev114 c, k0_dev114_lt c⟩ : Dev nD) = fwd c 21 := Fin.ext (k0_dev114_eq c)
@[sl_canon] theorem dev115_eq (c : Dev nD) : (⟨k0_dev115 c, k0_dev115_lt c⟩ : Dev nD) = fwd c 22 := Fin.ext (k0_dev115_eq c)
@[sl_canon] theorem dev116_eq (c : Dev nD) : (⟨k0_dev116 c, k0_dev116_lt c⟩ : Dev nD) = fwd c 23 := Fin.ext (k0_dev116_eq c)
@[sl_canon] theorem dev117_eq (c : Dev nD) : (⟨k0_dev117 c, k0_dev117_lt c⟩ : Dev nD) = fwd c 24 := Fin.ext (k0_dev117_eq c)
@[sl_canon] theorem dev118_eq (c : Dev nD) : (⟨k0_dev118 c, k0_dev118_lt c⟩ : Dev nD) = fwd c 25 := Fin.ext (k0_dev118_eq c)
@[sl_canon] theorem dev119_eq (c : Dev nD) : (⟨k0_dev119 c, k0_dev119_lt c⟩ : Dev nD) = fwd c 26 := Fin.ext (k0_dev119_eq c)
@[sl_canon] theorem dev120_eq (c : Dev nD) : (⟨k0_dev120 c, k0_dev120_lt c⟩ : Dev nD) = fwd c 27 := Fin.ext (k0_dev120_eq c)
@[sl_canon] theorem dev121_eq (c : Dev nD) : (⟨k0_dev121 c, k0_dev121_lt c⟩ : Dev nD) = fwd c 28 := Fin.ext (k0_dev121_eq c)
@[sl_canon] theorem dev122_eq (c : Dev nD) : (⟨k0_dev122 c, k0_dev122_lt c⟩ : Dev nD) = fwd c 29 := Fin.ext (k0_dev122_eq c)
@[sl_canon] theorem dev123_eq (c : Dev nD) : (⟨k0_dev123 c, k0_dev123_lt c⟩ : Dev nD) = fwd c 30 := Fin.ext (k0_dev123_eq c)
@[sl_canon] theorem dev124_eq (c : Dev nD) : (⟨k0_dev124 c, k0_dev124_lt c⟩ : Dev nD) = fwd c 31 := Fin.ext (k0_dev124_eq c)
@[sl_canon] theorem dev125_eq (c : Dev nD) : (⟨k0_dev125 c, k0_dev125_lt c⟩ : Dev nD) = fwd c 1 := Fin.ext (k0_dev125_eq c)
@[sl_canon] theorem dev126_eq (c : Dev nD) : (⟨k0_dev126 c, k0_dev126_lt c⟩ : Dev nD) = fwd c 2 := Fin.ext (k0_dev126_eq c)
@[sl_canon] theorem dev127_eq (c : Dev nD) : (⟨k0_dev127 c, k0_dev127_lt c⟩ : Dev nD) = fwd c 3 := Fin.ext (k0_dev127_eq c)
@[sl_canon] theorem dev128_eq (c : Dev nD) : (⟨k0_dev128 c, k0_dev128_lt c⟩ : Dev nD) = fwd c 4 := Fin.ext (k0_dev128_eq c)
@[sl_canon] theorem dev129_eq (c : Dev nD) : (⟨k0_dev129 c, k0_dev129_lt c⟩ : Dev nD) = fwd c 5 := Fin.ext (k0_dev129_eq c)
@[sl_canon] theorem dev130_eq (c : Dev nD) : (⟨k0_dev130 c, k0_dev130_lt c⟩ : Dev nD) = fwd c 6 := Fin.ext (k0_dev130_eq c)
@[sl_canon] theorem dev131_eq (c : Dev nD) : (⟨k0_dev131 c, k0_dev131_lt c⟩ : Dev nD) = fwd c 7 := Fin.ext (k0_dev131_eq c)
@[sl_canon] theorem dev132_eq (c : Dev nD) : (⟨k0_dev132 c, k0_dev132_lt c⟩ : Dev nD) = fwd c 8 := Fin.ext (k0_dev132_eq c)
@[sl_canon] theorem dev133_eq (c : Dev nD) : (⟨k0_dev133 c, k0_dev133_lt c⟩ : Dev nD) = fwd c 9 := Fin.ext (k0_dev133_eq c)
@[sl_canon] theorem dev134_eq (c : Dev nD) : (⟨k0_dev134 c, k0_dev134_lt c⟩ : Dev nD) = fwd c 10 := Fin.ext (k0_dev134_eq c)
@[sl_canon] theorem dev135_eq (c : Dev nD) : (⟨k0_dev135 c, k0_dev135_lt c⟩ : Dev nD) = fwd c 11 := Fin.ext (k0_dev135_eq c)
@[sl_canon] theorem dev136_eq (c : Dev nD) : (⟨k0_dev136 c, k0_dev136_lt c⟩ : Dev nD) = fwd c 12 := Fin.ext (k0_dev136_eq c)
@[sl_canon] theorem dev137_eq (c : Dev nD) : (⟨k0_dev137 c, k0_dev137_lt c⟩ : Dev nD) = fwd c 13 := Fin.ext (k0_dev137_eq c)
@[sl_canon] theorem dev138_eq (c : Dev nD) : (⟨k0_dev138 c, k0_dev138_lt c⟩ : Dev nD) = fwd c 14 := Fin.ext (k0_dev138_eq c)
@[sl_canon] theorem dev139_eq (c : Dev nD) : (⟨k0_dev139 c, k0_dev139_lt c⟩ : Dev nD) = fwd c 15 := Fin.ext (k0_dev139_eq c)
@[sl_canon] theorem dev140_eq (c : Dev nD) : (⟨k0_dev140 c, k0_dev140_lt c⟩ : Dev nD) = fwd c 16 := Fin.ext (k0_dev140_eq c)
@[sl_canon] theorem dev141_eq (c : Dev nD) : (⟨k0_dev141 c, k0_dev141_lt c⟩ : Dev nD) = fwd c 17 := Fin.ext (k0_dev141_eq c)
@[sl_canon] theorem dev142_eq (c : Dev nD) : (⟨k0_dev142 c, k0_dev142_lt c⟩ : Dev nD) = fwd c 18 := Fin.ext (k0_dev142_eq c)
@[sl_canon] theorem dev143_eq (c : Dev nD) : (⟨k0_dev143 c, k0_dev143_lt c⟩ : Dev nD) = fwd c 19 := Fin.ext (k0_dev143_eq c)
@[sl_canon] theorem dev144_eq (c : Dev nD) : (⟨k0_dev144 c, k0_dev144_lt c⟩ : Dev nD) = fwd c 20 := Fin.ext (k0_dev144_eq c)
@[sl_canon] theorem dev145_eq (c : Dev nD) : (⟨k0_dev145 c, k0_dev145_lt c⟩ : Dev nD) = fwd c 21 := Fin.ext (k0_dev145_eq c)
@[sl_canon] theorem dev146_eq (c : Dev nD) : (⟨k0_dev146 c, k0_dev146_lt c⟩ : Dev nD) = fwd c 22 := Fin.ext (k0_dev146_eq c)
@[sl_canon] theorem dev147_eq (c : Dev nD) : (⟨k0_dev147 c, k0_dev147_lt c⟩ : Dev nD) = fwd c 23 := Fin.ext (k0_dev147_eq c)
@[sl_canon] theorem dev148_eq (c : Dev nD) : (⟨k0_dev148 c, k0_dev148_lt c⟩ : Dev nD) = fwd c 24 := Fin.ext (k0_dev148_eq c)
@[sl_canon] theorem dev149_eq (c : Dev nD) : (⟨k0_dev149 c, k0_dev149_lt c⟩ : Dev nD) = fwd c 25 := Fin.ext (k0_dev149_eq c)
@[sl_canon] theorem dev150_eq (c : Dev nD) : (⟨k0_dev150 c, k0_dev150_lt c⟩ : Dev nD) = fwd c 26 := Fin.ext (k0_dev150_eq c)
@[sl_canon] theorem dev151_eq (c : Dev nD) : (⟨k0_dev151 c, k0_dev151_lt c⟩ : Dev nD) = fwd c 27 := Fin.ext (k0_dev151_eq c)
@[sl_canon] theorem dev152_eq (c : Dev nD) : (⟨k0_dev152 c, k0_dev152_lt c⟩ : Dev nD) = fwd c 28 := Fin.ext (k0_dev152_eq c)
@[sl_canon] theorem dev153_eq (c : Dev nD) : (⟨k0_dev153 c, k0_dev153_lt c⟩ : Dev nD) = fwd c 29 := Fin.ext (k0_dev153_eq c)
@[sl_canon] theorem dev154_eq (c : Dev nD) : (⟨k0_dev154 c, k0_dev154_lt c⟩ : Dev nD) = fwd c 30 := Fin.ext (k0_dev154_eq c)
@[sl_canon] theorem dev155_eq (c : Dev nD) : (⟨k0_dev155 c, k0_dev155_lt c⟩ : Dev nD) = fwd c 31 := Fin.ext (k0_dev155_eq c)

end Cert.KernelIdeal.AllReduce

end
-- ==== Proof.OwedSteps.lean ====
/-
  The one-step equations of what a device still owes: payment n, in program order, peels one summand.
-/
import proofs.«900438_g7700000000000439_dist_gemm_ar_m1024_k1024_n1024_f32_gelu_v7x_i32_1_alg».proof.Proof.Owed

noncomputable section

namespace Cert.KernelIdeal.AllReduce

open Cert.KernelIdeal Cert.KernelIdeal.Gen
open Idealize.ShloMosaic Idealize.ShloMosaic.TcCoe

/-! Payments 0..30 are the signals; 31..61 and 62..92 the reduce copies of halves 0 and 1; 93..123 and 124..154 the gather copies. -/

theorem owed_step_0 (c : Dev nD) : owedAfter c 0 = owedAfter c 1 + tallyAt (barCell (fwd c 1)) () 1 :=
  owedAfter_step c 0 (barCell (fwd c 1), 1) ((payList c).drop 1) rfl

theorem owed_step_1 (c : Dev nD) : owedAfter c 1 = owedAfter c 2 + tallyAt (barCell (fwd c 2)) () 1 :=
  owedAfter_step c 1 (barCell (fwd c 2), 1) ((payList c).drop 2) rfl

theorem owed_step_2 (c : Dev nD) : owedAfter c 2 = owedAfter c 3 + tallyAt (barCell (fwd c 3)) () 1 :=
  owedAfter_step c 2 (barCell (fwd c 3), 1) ((payList c).drop 3) rfl

theorem owed_step_3 (c : Dev nD) : owedAfter c 3 = owedAfter c 4 + tallyAt (barCell (fwd c 4)) () 1 :=
  owedAfter_step c 3 (barCell (fwd c 4), 1) ((payList c).drop 4) rfl

theorem owed_step_4 (c : Dev nD) : owedAfter c 4 = owedAfter c 5 + tallyAt (barCell (fwd c 5)) () 1 :=
  owedAfter_step c 4 (barCell (fwd c 5), 1) ((payList c).drop 5) rfl

theorem owed_step_5 (c : Dev nD) : owedAfter c 5 = owedAfter c 6 + tallyAt (barCell (fwd c 6)) () 1 :=
  owedAfter_step c 5 (barCell (fwd c 6), 1) ((payList c).drop 6) rfl

theorem owed_step_6 (c : Dev nD) : owedAfter c 6 = owedAfter c 7 + tallyAt (barCell (fwd c 7)) () 1 :=
  owedAfter_step c 6 (barCell (fwd c 7), 1) ((payList c).drop 7) rfl

theorem owed_step_7 (c : Dev nD) : owedAfter c 7 = owedAfter c 8 + tallyAt (barCell (fwd c 8)) () 1 :=
  owedAfter_step c 7 (barCell (fwd c 8), 1) ((payList c).drop 8) rfl

theorem owed_step_8 (c : Dev nD) : owedAfter c 8 = owedAfter c 9 + tallyAt (barCell (fwd c 9)) () 1 :=
  owedAfter_step c 8 (barCell (fwd c 9), 1) ((payList c).drop 9) rfl

theorem owed_step_9 (c : Dev nD) : owedAfter c 9 = owedAfter c 10 + tallyAt (barCell (fwd c 10)) () 1 :=
  owedAfter_step c 9 (barCell (fwd c 10), 1) ((payList c).drop 10) rfl

theorem owed_step_10 (c : Dev nD) : owedAfter c 10 = owedAfter c 11 + tallyAt (barCell (fwd c 11)) () 1 :=
  owedAfter_step c 10 (barCell (fwd c 11), 1) ((payList c).drop 11) rfl

theorem owed_step_11 (c : Dev nD) : owedAfter c 11 = owedAfter c 12 + tallyAt (barCell (fwd c 12)) () 1 :=
  owedAfter_step c 11 (barCell (fwd c 12), 1) ((payList c).drop 12) rfl

theorem owed_step_12 (c : Dev nD) : owedAfter c 12 = owedAfter c 13 + tallyAt (barCell (fwd c 13)) () 1 :=
  owedAfter_step c 12 (barCell (fwd c 13), 1) ((payList c).drop 13) rfl

theorem owed_step_13 (c : Dev nD) : owedAfter c 13 = owedAfter c 14 + tallyAt (barCell (fwd c 14)) () 1 :=
  owedAfter_step c 13 (barCell (fwd c 14), 1) ((payList c).drop 14) rfl

theorem owed_step_14 (c : Dev nD) : owedAfter c 14 = owedAfter c 15 + tallyAt (barCell (fwd c 15)) () 1 :=
  owedAfter_step c 14 (barCell (fwd c 15), 1) ((payList c).drop 15) rfl

theorem owed_step_15 (c : Dev nD) : owedAfter c 15 = owedAfter c 16 + tallyAt (barCell (fwd c 16)) () 1 :=
  owedAfter_step c 15 (barCell (fwd c 16), 1) ((payList c).drop 16) rfl

theorem owed_step_16 (c : Dev nD) : owedAfter c 16 = owedAfter c 17 + tallyAt (barCell (fwd c 17)) () 1 :=
  owedAfter_step c 16 (barCell (fwd c 17), 1) ((payList c).drop 17) rfl

theorem owed_step_17 (c : Dev nD) : owedAfter c 17 = owedAfter c 18 + tallyAt (barCell (fwd c 18)) () 1 :=
  owedAfter_step c 17 (barCell (fwd c 18), 1) ((payList c).drop 18) rfl

theorem owed_step_18 (c : Dev nD) : owedAfter c 18 = owedAfter c 19 + tallyAt (barCell (fwd c 19)) () 1 :=
  owedAfter_step c 18 (barCell (fwd c 19), 1) ((payList c).drop 19) rfl

theorem owed_step_19 (c : Dev nD) : owedAfter c 19 = owedAfter c 20 + tallyAt (barCell (fwd c 20)) () 1 :=
  owedAfter_step c 19 (barCell (fwd c 20), 1) ((payList c).drop 20) rfl

theorem owed_step_20 (c : Dev nD) : owedAfter c 20 = owedAfter c 21 + tallyAt (barCell (fwd c 21)) () 1 :=
  owedAfter_step c 20 (barCell (fwd c 21), 1) ((payList c).drop 21) rfl

theorem owed_step_21 (c : Dev nD) : owedAfter c 21 = owedAfter c 22 + tallyAt (barCell (fwd c 22)) () 1 :=
  owedAfter_step c 21 (barCell (fwd c 22), 1) ((payList c).drop 22) rfl

theorem owed_step_22 (c : Dev nD) : owedAfter c 22 = owedAfter c 23 + tallyAt (barCell (fwd c 23)) () 1 :=
  owedAfter_step c 22 (barCell (fwd c 23), 1) ((payList c).drop 23) rfl

theorem owed_step_23 (c : Dev nD) : owedAfter c 23 = owedAfter c 24 + tallyAt (barCell (fwd c 24)) () 1 :=
  owedAfter_step c 23 (barCell (fwd c 24), 1) ((payList c).drop 24) rfl

theorem owed_step_24 (c : Dev nD) : owedAfter c 24 = owedAfter c 25 + tallyAt (barCell (fwd c 25)) () 1 :=
  owedAfter_step c 24 (barCell (fwd c 25), 1) ((payList c).drop 25) rfl

theorem owed_step_25 (c : Dev nD) : owedAfter c 25 = owedAfter c 26 + tallyAt (barCell (fwd c 26)) () 1 :=
  owedAfter_step c 25 (barCell (fwd c 26), 1) ((payList c).drop 26) rfl

theorem owed_step_26 (c : Dev nD) : owedAfter c 26 = owedAfter c 27 + tallyAt (barCell (fwd c 27)) () 1 :=
  owedAfter_step c 26 (barCell (fwd c 27), 1) ((payList c).drop 27) rfl

theorem owed_step_27 (c : Dev nD) : owedAfter c 27 = owedAfter c 28 + tallyAt (barCell (fwd c 28)) () 1 :=
  owedAfter_step c 27 (barCell (fwd c 28), 1) ((payList c).drop 28) rfl

theorem owed_step_28 (c : Dev nD) : owedAfter c 28 = owedAfter c 29 + tallyAt (barCell (fwd c 29)) () 1 :=
  owedAfter_step c 28 (barCell (fwd c 29), 1) ((payList c).drop 29) rfl

theorem owed_step_29 (c : Dev nD) : owedAfter c 29 = owedAfter c 30 + tallyAt (barCell (fwd c 30)) () 1 :=
  owedAfter_step c 29 (barCell (fwd c 30), 1) ((payList c).drop 30) rfl

theorem owed_step_30 (c : Dev nD) : owedAfter c 30 = owedAfter c 31 + tallyAt (barCell (fwd c 31)) () 1 :=
  owedAfter_step c 30 (barCell (fwd c 31), 1) ((payList c).drop 31) rfl

theorem owed_step_31 (c : Dev nD) : owedAfter c 31 = owedAfter c 32 + tallyAt (dmaCell (fwd c 1) rsR 0 1) () Nc :=
  owedAfter_step c 31 (dmaCell (fwd c 1) rsR 0 1, Nc) ((payList c).drop 32) rfl

theorem owed_step_32 (c : Dev nD) : owedAfter c 32 = owedAfter c 33 + tallyAt (dmaCell (fwd c 2) rsR 0 2) () Nc :=
  owedAfter_step c 32 (dmaCell (fwd c 2) rsR 0 2, Nc) ((payList c).drop 33) rfl

theorem owed_step_33 (c : Dev nD) : owedAfter c 33 = owedAfter c 34 + tallyAt (dmaCell (fwd c 3) rsR 0 3) () Nc :=
  owedAfter_step c 33 (dmaCell (fwd c 3) rsR 0 3, Nc) ((payList c).drop 34) rfl

theorem owed_step_34 (c : Dev nD) : owedAfter c 34 = owedAfter c 35 + tallyAt (dmaCell (fwd c 4) rsR 0 4) () Nc :=
  owedAfter_step c 34 (dmaCell (fwd c 4) rsR 0 4, Nc) ((payList c).drop 35) rfl

theorem owed_step_35 (c : Dev nD) : owedAfter c 35 = owedAfter c 36 + tallyAt (dmaCell (fwd c 5) rsR 0 5) () Nc :=
  owedAfter_step c 35 (dmaCell (fwd c 5) rsR 0 5, Nc) ((payList c).drop 36) rfl

theorem owed_step_36 (c : Dev nD) : owedAfter c 36 = owedAfter c 37 + tallyAt (dmaCell (fwd c 6) rsR 0 6) () Nc :=
  owedAfter_step c 36 (dmaCell (fwd c 6) rsR 0 6, Nc) ((payList c).drop 37) rfl

theorem owed_step_37 (c : Dev nD) : owedAfter c 37 = owedAfter c 38 + tallyAt (dmaCell (fwd c 7) rsR 0 7) () Nc :=
  owedAfter_step c 37 (dmaCell (fwd c 7) rsR 0 7, Nc) ((payList c).drop 38) rfl

theorem owed_step_38 (c : Dev nD) : owedAfter c 38 = owedAfter c 39 + tallyAt (dmaCell (fwd c 8) rsR 0 8) () Nc :=
  owedAfter_step c 38 (dmaCell (fwd c 8) rsR 0 8, Nc) ((payList c).drop 39) rfl

theorem owed_step_39 (c : Dev nD) : owedAfter c 39 = owedAfter c 40 + tallyAt (dmaCell (fwd c 9) rsR 0 9) () Nc :=
  owedAfter_step c 39 (dmaCell (fwd c 9) rsR 0 9, Nc) ((payList c).drop 40) rfl

theorem owed_step_40 (c : Dev nD) : owedAfter c 40 = owedAfter c 41 + tallyAt (dmaCell (fwd c 10) rsR 0 10) () Nc :=
  owedAfter_step c 40 (dmaCell (fwd c 10) rsR 0 10, Nc) ((payList c).drop 41) rfl

theorem owed_step_41 (c : Dev nD) : owedAfter c 41 = owedAfter c 42 + tallyAt (dmaCell (fwd c 11) rsR 0 11) () Nc :=
  owedAfter_step c 41 (dmaCell (fwd c 11) rsR 0 11, Nc) ((payList c).drop 42) rfl

theorem owed_step_42 (c : Dev nD) : owedAfter c 42 = owedAfter c 43 + tallyAt (dmaCell (fwd c 12) rsR 0 12) () Nc :=
  owedAfter_step c 42 (dmaCell (fwd c 12) rsR 0 12, Nc) ((payList c).drop 43) rfl

theorem owed_step_43 (c : Dev nD) : owedAfter c 43 = owedAfter c 44 + tallyAt (dmaCell (fwd c 13) rsR 0 13) () Nc :=
  owedAfter_step c 43 (dmaCell (fwd c 13) rsR 0 13, Nc) ((payList c).drop 44) rfl

theorem owed_step_44 (c : Dev nD) : owedAfter c 44 = owedAfter c 45 + tallyAt (dmaCell (fwd c 14) rsR 0 14) () Nc :=
  owedAfter_step c 44 (dmaCell (fwd c 14) rsR 0 14, Nc) ((payList c).drop 45) rfl

theorem owed_step_45 (c : Dev nD) : owedAfter c 45 = owedAfter c 46 + tallyAt (dmaCell (fwd c 15) rsR 0 15) () Nc :=
  owedAfter_step c 45 (dmaCell (fwd c 15) rsR 0 15, Nc) ((payList c).drop 46) rfl

theorem owed_step_46 (c : Dev nD) : owedAfter c 46 = owedAfter c 47 + tallyAt (dmaCell (fwd c 16) rsR 0 16) () Nc :=
  owedAfter_step c 46 (dmaCell (fwd c 16) rsR 0 16, Nc) ((payList c).drop 47) rfl

theorem owed_step_47 (c : Dev nD) : owedAfter c 47 = owedAfter c 48 + tallyAt (dmaCell (fwd c 17) rsR 0 17) () Nc :=
  owedAfter_step c 47 (dmaCell (fwd c 17) rsR 0 17, Nc) ((payList c).drop 48) rfl

theorem owed_step_48 (c : Dev nD) : owedAfter c 48 = owedAfter c 49 + tallyAt (dmaCell (fwd c 18) rsR 0 18) () Nc :=
  owedAfter_step c 48 (dmaCell (fwd c 18) rsR 0 18, Nc) ((payList c).drop 49) rfl

theorem owed_step_49 (c : Dev nD) : owedAfter c 49 = owedAfter c 50 + tallyAt (dmaCell (fwd c 19) rsR 0 19) () Nc :=
  owedAfter_step c 49 (dmaCell (fwd c 19) rsR 0 19, Nc) ((payList c).drop 50) rfl

theorem owed_step_50 (c : Dev nD) : owedAfter c 50 = owedAfter c 51 + tallyAt (dmaCell (fwd c 20) rsR 0 20) () Nc :=
  owedAfter_step c 50 (dmaCell (fwd c 20) rsR 0 20, Nc) ((payList c).drop 51) rfl

theorem owed_step_51 (c : Dev nD) : owedAfter c 51 = owedAfter c 52 + tallyAt (dmaCell (fwd c 21) rsR 0 21) () Nc :=
  owedAfter_step c 51 (dmaCell (fwd c 21) rsR 0 21, Nc) ((payList c).drop 52) rfl

theorem owed_step_52 (c : Dev nD) : owedAfter c 52 = owedAfter c 53 + tallyAt (dmaCell (fwd c 22) rsR 0 22) () Nc :=
  owedAfter_step c 52 (dmaCell (fwd c 22) rsR 0 22, Nc) ((payList c).drop 53) rfl

theorem owed_step_53 (c : Dev nD) : owedAfter c 53 = owedAfter c 54 + tallyAt (dmaCell (fwd c 23) rsR 0 23) () Nc :=
  owedAfter_step c 53 (dmaCell (fwd c 23) rsR 0 23, Nc) ((payList c).drop 54) rfl

theorem owed_step_54 (c : Dev nD) : owedAfter c 54 = owedAfter c 55 + tallyAt (dmaCell (fwd c 24) rsR 0 24) () Nc :=
  owedAfter_step c 54 (dmaCell (fwd c 24) rsR 0 24, Nc) ((payList c).drop 55) rfl

theorem owed_step_55 (c : Dev nD) : owedAfter c 55 = owedAfter c 56 + tallyAt (dmaCell (fwd c 25) rsR 0 25) () Nc :=
  owedAfter_step c 55 (dmaCell (fwd c 25) rsR 0 25, Nc) ((payList c).drop 56) rfl

theorem owed_step_56 (c : Dev nD) : owedAfter c 56 = owedAfter c 57 + tallyAt (dmaCell (fwd c 26) rsR 0 26) () Nc :=
  owedAfter_step c 56 (dmaCell (fwd c 26) rsR 0 26, Nc) ((payList c).drop 57) rfl

theorem owed_step_57 (c : Dev nD) : owedAfter c 57 = owedAfter c 58 + tallyAt (dmaCell (fwd c 27) rsR 0 27) () Nc :=
  owedAfter_step c 57 (dmaCell (fwd c 27) rsR 0 27, Nc) ((payList c).drop 58) rfl

theorem owed_step_58 (c : Dev nD) : owedAfter c 58 = owedAfter c 59 + tallyAt (dmaCell (fwd c 28) rsR 0 28) () Nc :=
  owedAfter_step c 58 (dmaCell (fwd c 28) rsR 0 28, Nc) ((payList c).drop 59) rfl

theorem owed_step_59 (c : Dev nD) : owedAfter c 59 = owedAfter c 60 + tallyAt (dmaCell (fwd c 29) rsR 0 29) () Nc :=
  owedAfter_step c 59 (dmaCell (fwd c 29) rsR 0 29, Nc) ((payList c).drop 60) rfl

theorem owed_step_60 (c : Dev nD) : owedAfter c 60 = owedAfter c 61 + tallyAt (dmaCell (fwd c 30) rsR 0 30) () Nc :=
  owedAfter_step c 60 (dmaCell (fwd c 30) rsR 0 30, Nc) ((payList c).drop 61) rfl

theorem owed_step_61 (c : Dev nD) : owedAfter c 61 = owedAfter c 62 + tallyAt (dmaCell (fwd c 31) rsR 0 31) () Nc :=
  owedAfter_step c 61 (dmaCell (fwd c 31) rsR 0 31, Nc) ((payList c).drop 62) rfl

theorem owed_step_62 (c : Dev nD) : owedAfter c 62 = owedAfter c 63 + tallyAt (dmaCell (fwd c 1) rsR 1 1) () Nc :=
  owedAfter_step c 62 (dmaCell (fwd c 1) rsR 1 1, Nc) ((payList c).drop 63) rfl

theorem owed_step_63 (c : Dev nD) : owedAfter c 63 = owedAfter c 64 + tallyAt (dmaCell (fwd c 2) rsR 1 2) () Nc :=
  owedAfter_step c 63 (dmaCell (fwd c 2) rsR 1 2, Nc) ((payList c).drop 64) rfl

theorem owed_step_64 (c : Dev nD) : owedAfter c 64 = owedAfter c 65 + tallyAt (dmaCell (fwd c 3) rsR 1 3) () Nc :=
  owedAfter_step c 64 (dmaCell (fwd c 3) rsR 1 3, Nc) ((payList c).drop 65) rfl

theorem owed_step_65 (c : Dev nD) : owedAfter c 65 = owedAfter c 66 + tallyAt (dmaCell (fwd c 4) rsR 1 4) () Nc :=
  owedAfter_step c 65 (dmaCell (fwd c 4) rsR 1 4, Nc) ((payList c).drop 66) rfl

theorem owed_step_66 (c : Dev nD) : owedAfter c 66 = owedAfter c 67 + tallyAt (dmaCell (fwd c 5) rsR 1 5) () Nc :=
  owedAfter_step c 66 (dmaCell (fwd c 5) rsR 1 5, Nc) ((payList c).drop 67) rfl

theorem owed_step_67 (c : Dev nD) : owedAfter c 67 = owedAfter c 68 + tallyAt (dmaCell (fwd c 6) rsR 1 6) () Nc :=
  owedAfter_step c 67 (dmaCell (fwd c 6) rsR 1 6, Nc) ((payList c).drop 68) rfl

theorem owed_step_68 (c : Dev nD) : owedAfter c 68 = owedAfter c 69 + tallyAt (dmaCell (fwd c 7) rsR 1 7) () Nc :=
  owedAfter_step c 68 (dmaCell (fwd c 7) rsR 1 7, Nc) ((payList c).drop 69) rfl

theorem owed_step_69 (c : Dev nD) : owedAfter c 69 = owedAfter c 70 + tallyAt (dmaCell (fwd c 8) rsR 1 8) () Nc :=
  owedAfter_step c 69 (dmaCell (fwd c 8) rsR 1 8, Nc) ((payList c).drop 70) rfl

theorem owed_step_70 (c : Dev nD) : owedAfter c 70 = owedAfter c 71 + tallyAt (dmaCell (fwd c 9) rsR 1 9) () Nc :=
  owedAfter_step c 70 (dmaCell (fwd c 9) rsR 1 9, Nc) ((payList c).drop 71) rfl

theorem owed_step_71 (c : Dev nD) : owedAfter c 71 = owedAfter c 72 + tallyAt (dmaCell (fwd c 10) rsR 1 10) () Nc :=
  owedAfter_step c 71 (dmaCell (fwd c 10) rsR 1 10, Nc) ((payList c).drop 72) rfl

theorem owed_step_72 (c : Dev nD) : owedAfter c 72 = owedAfter c 73 + tallyAt (dmaCell (fwd c 11) rsR 1 11) () Nc :=
  owedAfter_step c 72 (dmaCell (fwd c 11) rsR 1 11, Nc) ((payList c).drop 73) rfl

theorem owed_step_73 (c : Dev nD) : owedAfter c 73 = owedAfter c 74 + tallyAt (dmaCell (fwd c 12) rsR 1 12) () Nc :=
  owedAfter_step c 73 (dmaCell (fwd c 12) rsR 1 12, Nc) ((payList c).drop 74) rfl

theorem owed_step_74 (c : Dev nD) : owedAfter c 74 = owedAfter c 75 + tallyAt (dmaCell (fwd c 13) rsR 1 13) () Nc :=
  owedAfter_step c 74 (dmaCell (fwd c 13) rsR 1 13, Nc) ((payList c).drop 75) rfl

theorem owed_step_75 (c : Dev nD) : owedAfter c 75 = owedAfter c 76 + tallyAt (dmaCell (fwd c 14) rsR 1 14) () Nc :=
  owedAfter_step c 75 (dmaCell (fwd c 14) rsR 1 14, Nc) ((payList c).drop 76) rfl

theorem owed_step_76 (c : Dev nD) : owedAfter c 76 = owedAfter c 77 + tallyAt (dmaCell (fwd c 15) rsR 1 15) () Nc :=
  owedAfter_step c 76 (dmaCell (fwd c 15) rsR 1 15, Nc) ((payList c).drop 77) rfl

theorem owed_step_77 (c : Dev nD) : owedAfter c 77 = owedAfter c 78 + tallyAt (dmaCell (fwd c 16) rsR 1 16) () Nc :=
  owedAfter_step c 77 (dmaCell (fwd c 16) rsR 1 16, Nc) ((payList c).drop 78) rfl

theorem owed_step_78 (c : Dev nD) : owedAfter c 78 = owedAfter c 79 + tallyAt (dmaCell (fwd c 17) rsR 1 17) () Nc :=
  owedAfter_step c 78 (dmaCell (fwd c 17) rsR 1 17, Nc) ((payList c).drop 79) rfl

theorem owed_step_79 (c : Dev nD) : owedAfter c 79 = owedAfter c 80 + tallyAt (dmaCell (fwd c 18) rsR 1 18) () Nc :=
  owedAfter_step c 79 (dmaCell (fwd c 18) rsR 1 18, Nc) ((payList c).drop 80) rfl

theorem owed_step_80 (c : Dev nD) : owedAfter c 80 = owedAfter c 81 + tallyAt (dmaCell (fwd c 19) rsR 1 19) () Nc :=
  owedAfter_step c 80 (dmaCell (fwd c 19) rsR 1 19, Nc) ((payList c).drop 81) rfl

theorem owed_step_81 (c : Dev nD) : owedAfter c 81 = owedAfter c 82 + tallyAt (dmaCell (fwd c 20) rsR 1 20) () Nc :=
  owedAfter_step c 81 (dmaCell (fwd c 20) rsR 1 20, Nc) ((payList c).drop 82) rfl

theorem owed_step_82 (c : Dev nD) : owedAfter c 82 = owedAfter c 83 + tallyAt (dmaCell (fwd c 21) rsR 1 21) () Nc :=
  owedAfter_step c 82 (dmaCell (fwd c 21) rsR 1 21, Nc) ((payList c).drop 83) rfl

theorem owed_step_83 (c : Dev nD) : owedAfter c 83 = owedAfter c 84 + tallyAt (dmaCell (fwd c 22) rsR 1 22) () Nc :=
  owedAfter_step c 83 (dmaCell (fwd c 22) rsR 1 22, Nc) ((payList c).drop 84) rfl

theorem owed_step_84 (c : Dev nD) : owedAfter c 84 = owedAfter c 85 + tallyAt (dmaCell (fwd c 23) rsR 1 23) () Nc :=
  owedAfter_step c 84 (dmaCell (fwd c 23) rsR 1 23, Nc) ((payList c).drop 85) rfl

theorem owed_step_85 (c : Dev nD) : owedAfter c 85 = owedAfter c 86 + tallyAt (dmaCell (fwd c 24) rsR 1 24) () Nc :=
  owedAfter_step c 85 (dmaCell (fwd c 24) rsR 1 24, Nc) ((payList c).drop 86) rfl

theorem owed_step_86 (c : Dev nD) : owedAfter c 86 = owedAfter c 87 + tallyAt (dmaCell (fwd c 25) rsR 1 25) () Nc :=
  owedAfter_step c 86 (dmaCell (fwd c 25) rsR 1 25, Nc) ((payList c).drop 87) rfl

theorem owed_step_87 (c : Dev nD) : owedAfter c 87 = owedAfter c 88 + tallyAt (dmaCell (fwd c 26) rsR 1 26) () Nc :=
  owedAfter_step c 87 (dmaCell (fwd c 26) rsR 1 26, Nc) ((payList c).drop 88) rfl

theorem owed_step_88 (c : Dev nD) : owedAfter c 88 = owedAfter c 89 + tallyAt (dmaCell (fwd c 27) rsR 1 27) () Nc :=
  owedAfter_step c 88 (dmaCell (fwd c 27) rsR 1 27, Nc) ((payList c).drop 89) rfl

theorem owed_step_89 (c : Dev nD) : owedAfter c 89 = owedAfter c 90 + tallyAt (dmaCell (fwd c 28) rsR 1 28) () Nc :=
  owedAfter_step c 89 (dmaCell (fwd c 28) rsR 1 28, Nc) ((payList c).drop 90) rfl

theorem owed_step_90 (c : Dev nD) : owedAfter c 90 = owedAfter c 91 + tallyAt (dmaCell (fwd c 29) rsR 1 29) () Nc :=
  owedAfter_step c 90 (dmaCell (fwd c 29) rsR 1 29, Nc) ((payList c).drop 91) rfl

theorem owed_step_91 (c : Dev nD) : owedAfter c 91 = owedAfter c 92 + tallyAt (dmaCell (fwd c 30) rsR 1 30) () Nc :=
  owedAfter_step c 91 (dmaCell (fwd c 30) rsR 1 30, Nc) ((payList c).drop 92) rfl

theorem owed_step_92 (c : Dev nD) : owedAfter c 92 = owedAfter c 93 + tallyAt (dmaCell (fwd c 31) rsR 1 31) () Nc :=
  owedAfter_step c 92 (dmaCell (fwd c 31) rsR 1 31, Nc) ((payList c).drop 93) rfl

theorem owed_step_93 (c : Dev nD) : owedAfter c 93 = owedAfter c 94 + tallyAt (dmaCell (fwd c 1) agR 0 1) () Nc :=
  owedAfter_step c 93 (dmaCell (fwd c 1) agR 0 1, Nc) ((payList c).drop 94) rfl

theorem owed_step_94 (c : Dev nD) : owedAfter c 94 = owedAfter c 95 + tallyAt (dmaCell (fwd c 2) agR 0 2) () Nc :=
  owedAfter_step c 94 (dmaCell (fwd c 2) agR 0 2, Nc) ((payList c).drop 95) rfl

theorem owed_step_95 (c : Dev nD) : owedAfter c 95 = owedAfter c 96 + tallyAt (dmaCell (fwd c 3) agR 0 3) () Nc :=
  owedAfter_step c 95 (dmaCell (fwd c 3) agR 0 3, Nc) ((payList c).drop 96) rfl

theorem owed_step_96 (c : Dev nD) : owedAfter c 96 = owedAfter c 97 + tallyAt (dmaCell (fwd c 4) agR 0 4) () Nc :=
  owedAfter_step c 96 (dmaCell (fwd c 4) agR 0 4, Nc) ((payList c).drop 97) rfl

theorem owed_step_97 (c : Dev nD) : owedAfter c 97 = owedAfter c 98 + tallyAt (dmaCell (fwd c 5) agR 0 5) () Nc :=
  owedAfter_step c 97 (dmaCell (fwd c 5) agR 0 5, Nc) ((payList c).drop 98) rfl

theorem owed_step_98 (c : Dev nD) : owedAfter c 98 = owedAfter c 99 + tallyAt (dmaCell (fwd c 6) agR 0 6) () Nc :=
  owedAfter_step c 98 (dmaCell (fwd c 6) agR 0 6, Nc) ((payList c).drop 99) rfl

theorem owed_step_99 (c : Dev nD) : owedAfter c 99 = owedAfter c 100 + tallyAt (dmaCell (fwd c 7) agR 0 7) () Nc :=
  owedAfter_step c 99 (dmaCell (fwd c 7) agR 0 7, Nc) ((payList c).drop 100) rfl

theorem owed_step_100 (c : Dev nD) : owedAfter c 100 = owedAfter c 101 + tallyAt (dmaCell (fwd c 8) agR 0 8) () Nc :=
  owedAfter_step c 100 (dmaCell (fwd c 8) agR 0 8, Nc) ((payList c).drop 101) rfl

theorem owed_step_101 (c : Dev nD) : owedAfter c 101 = owedAfter c 102 + tallyAt (dmaCell (fwd c 9) agR 0 9) () Nc :=
  owedAfter_step c 101 (dmaCell (fwd c 9) agR 0 9, Nc) ((payList c).drop 102) rfl

theorem owed_step_102 (c : Dev nD) : owedAfter c 102 = owedAfter c 103 + tallyAt (dmaCell (fwd c 10) agR 0 10) () Nc :=
  owedAfter_step c 102 (dmaCell (fwd c 10) agR 0 10, Nc) ((payList c).drop 103) rfl

theorem owed_step_103 (c : Dev nD) : owedAfter c 103 = owedAfter c 104 + tallyAt (dmaCell (fwd c 11) agR 0 11) () Nc :=
  owedAfter_step c 103 (dmaCell (fwd c 11) agR 0 11, Nc) ((payList c).drop 104) rfl

theorem owed_step_104 (c : Dev nD) : owedAfter c 104 = owedAfter c 105 + tallyAt (dmaCell (fwd c 12) agR 0 12) () Nc :=
  owedAfter_step c 104 (dmaCell (fwd c 12) agR 0 12, Nc) ((payList c).drop 105) rfl

theorem owed_step_105 (c : Dev nD) : owedAfter c 105 = owedAfter c 106 + tallyAt (dmaCell (fwd c 13) agR 0 13) () Nc :=
  owedAfter_step c 105 (dmaCell (fwd c 13) agR 0 13, Nc) ((payList c).drop 106) rfl

theorem owed_step_106 (c : Dev nD) : owedAfter c 106 = owedAfter c 107 + tallyAt (dmaCell (fwd c 14) agR 0 14) () Nc :=
  owedAfter_step c 106 (dmaCell (fwd c 14) agR 0 14, Nc) ((payList c).drop 107) rfl

theorem owed_step_107 (c : Dev nD) : owedAfter c 107 = owedAfter c 108 + tallyAt (dmaCell (fwd c 15) agR 0 15) () Nc :=
  owedAfter_step c 107 (dmaCell (fwd c 15) agR 0 15, Nc) ((payList c).drop 108) rfl

theorem owed_step_108 (c : Dev nD) : owedAfter c 108 = owedAfter c 109 + tallyAt (dmaCell (fwd c 16) agR 0 16) () Nc :=
  owedAfter_step c 108 (dmaCell (fwd c 16) agR 0 16, Nc) ((payList c).drop 109) rfl

theorem owed_step_109 (c : Dev nD) : owedAfter c 109 = owedAfter c 110 + tallyAt (dmaCell (fwd c 17) agR 0 17) () Nc :=
  owedAfter_step c 109 (dmaCell (fwd c 17) agR 0 17, Nc) ((payList c).drop 110) rfl

theorem owed_step_110 (c : Dev nD) : owedAfter c 110 = owedAfter c 111 + tallyAt (dmaCell (fwd c 18) agR 0 18) () Nc :=
  owedAfter_step c 110 (dmaCell (fwd c 18) agR 0 18, Nc) ((payList c).drop 111) rfl

theorem owed_step_111 (c : Dev nD) : owedAfter c 111 = owedAfter c 112 + tallyAt (dmaCell (fwd c 19) agR 0 19) () Nc :=
  owedAfter_step c 111 (dmaCell (fwd c 19) agR 0 19, Nc) ((payList c).drop 112) rfl

theorem owed_step_112 (c : Dev nD) : owedAfter c 112 = owedAfter c 113 + tallyAt (dmaCell (fwd c 20) agR 0 20) () Nc :=
  owedAfter_step c 112 (dmaCell (fwd c 20) agR 0 20, Nc) ((payList c).drop 113) rfl

theorem owed_step_113 (c : Dev nD) : owedAfter c 113 = owedAfter c 114 + tallyAt (dmaCell (fwd c 21) agR 0 21) () Nc :=
  owedAfter_step c 113 (dmaCell (fwd c 21) agR 0 21, Nc) ((payList c).drop 114) rfl

theorem owed_step_114 (c : Dev nD) : owedAfter c 114 = owedAfter c 115 + tallyAt (dmaCell (fwd c 22) agR 0 22) () Nc :=
  owedAfter_step c 114 (dmaCell (fwd c 22) agR 0 22, Nc) ((payList c).drop 115) rfl

theorem owed_step_115 (c : Dev nD) : owedAfter c 115 = owedAfter c 116 + tallyAt (dmaCell (fwd c 23) agR 0 23) () Nc :=
  owedAfter_step c 115 (dmaCell (fwd c 23) agR 0 23, Nc) ((payList c).drop 116) rfl

theorem owed_step_116 (c : Dev nD) : owedAfter c 116 = owedAfter c 117 + tallyAt (dmaCell (fwd c 24) agR 0 24) () Nc :=
  owedAfter_step c 116 (dmaCell (fwd c 24) agR 0 24, Nc) ((payList c).drop 117) rfl

theorem owed_step_117 (c : Dev nD) : owedAfter c 117 = owedAfter c 118 + tallyAt (dmaCell (fwd c 25) agR 0 25) () Nc :=
  owedAfter_step c 117 (dmaCell (fwd c 25) agR 0 25, Nc) ((payList c).drop 118) rfl

theorem owed_step_118 (c : Dev nD) : owedAfter c 118 = owedAfter c 119 + tallyAt (dmaCell (fwd c 26) agR 0 26) () Nc :=
  owedAfter_step c 118 (dmaCell (fwd c 26) agR 0 26, Nc) ((payList c).drop 119) rfl

theorem owed_step_119 (c : Dev nD) : owedAfter c 119 = owedAfter c 120 + tallyAt (dmaCell (fwd c 27) agR 0 27) () Nc :=
  owedAfter_step c 119 (dmaCell (fwd c 27) agR 0 27, Nc) ((payList c).drop 120) rfl

theorem owed_step_120 (c : Dev nD) : owedAfter c 120 = owedAfter c 121 + tallyAt (dmaCell (fwd c 28) agR 0 28) () Nc :=
  owedAfter_step c 120 (dmaCell (fwd c 28) agR 0 28, Nc) ((payList c).drop 121) rfl

theorem owed_step_121 (c : Dev nD) : owedAfter c 121 = owedAfter c 122 + tallyAt (dmaCell (fwd c 29) agR 0 29) () Nc :=
  owedAfter_step c 121 (dmaCell (fwd c 29) agR 0 29, Nc) ((payList c).drop 122) rfl

theorem owed_step_122 (c : Dev nD) : owedAfter c 122 = owedAfter c 123 + tallyAt (dmaCell (fwd c 30) agR 0 30) () Nc :=
  owedAfter_step c 122 (dmaCell (fwd c 30) agR 0 30, Nc) ((payList c).drop 123) rfl

theorem owed_step_123 (c : Dev nD) : owedAfter c 123 = owedAfter c 124 + tallyAt (dmaCell (fwd c 31) agR 0 31) () Nc :=
  owedAfter_step c 123 (dmaCell (fwd c 31) agR 0 31, Nc) ((payList c).drop 124) rfl

theorem owed_step_124 (c : Dev nD) : owedAfter c 124 = owedAfter c 125 + tallyAt (dmaCell (fwd c 1) agR 1 1) () Nc :=
  owedAfter_step c 124 (dmaCell (fwd c 1) agR 1 1, Nc) ((payList c).drop 125) rfl

theorem owed_step_125 (c : Dev nD) : owedAfter c 125 = owedAfter c 126 + tallyAt (dmaCell (fwd c 2) agR 1 2) () Nc :=
  owedAfter_step c 125 (dmaCell (fwd c 2) agR 1 2, Nc) ((payList c).drop 126) rfl

theorem owed_step_126 (c : Dev nD) : owedAfter c 126 = owedAfter c 127 + tallyAt (dmaCell (fwd c 3) agR 1 3) () Nc :=
  owedAfter_step c 126 (dmaCell (fwd c 3) agR 1 3, Nc) ((payList c).drop 127) rfl

theorem owed_step_127 (c : Dev nD) : owedAfter c 127 = owedAfter c 128 + tallyAt (dmaCell (fwd c 4) agR 1 4) () Nc :=
  owedAfter_step c 127 (dmaCell (fwd c 4) agR 1 4, Nc) ((payList c).drop 128) rfl

theorem owed_step_128 (c : Dev nD) : owedAfter c 128 = owedAfter c 129 + tallyAt (dmaCell (fwd c 5) agR 1 5) () Nc :=
  owedAfter_step c 128 (dmaCell (fwd c 5) agR 1 5, Nc) ((payList c).drop 129) rfl

theorem owed_step_129 (c : Dev nD) : owedAfter c 129 = owedAfter c 130 + tallyAt (dmaCell (fwd c 6) agR 1 6) () Nc :=
  owedAfter_step c 129 (dmaCell (fwd c 6) agR 1 6, Nc) ((payList c).drop 130) rfl

theorem owed_step_130 (c : Dev nD) : owedAfter c 130 = owedAfter c 131 + tallyAt (dmaCell (fwd c 7) agR 1 7) () Nc :=
  owedAfter_step c 130 (dmaCell (fwd c 7) agR 1 7, Nc) ((payList c).drop 131) rfl

theorem owed_step_131 (c : Dev nD) : owedAfter c 131 = owedAfter c 132 + tallyAt (dmaCell (fwd c 8) agR 1 8) () Nc :=
  owedAfter_step c 131 (dmaCell (fwd c 8) agR 1 8, Nc) ((payList c).drop 132) rfl

theorem owed_step_132 (c : Dev nD) : owedAfter c 132 = owedAfter c 133 + tallyAt (dmaCell (fwd c 9) agR 1 9) () Nc :=
  owedAfter_step c 132 (dmaCell (fwd c 9) agR 1 9, Nc) ((payList c).drop 133) rfl

theorem owed_step_133 (c : Dev nD) : owedAfter c 133 = owedAfter c 134 + tallyAt (dmaCell (fwd c 10) agR 1 10) () Nc :=
  owedAfter_step c 133 (dmaCell (fwd c 10) agR 1 10, Nc) ((payList c).drop 134) rfl

theorem owed_step_134 (c : Dev nD) : owedAfter c 134 = owedAfter c 135 + tallyAt (dmaCell (fwd c 11) agR 1 11) () Nc :=
  owedAfter_step c 134 (dmaCell (fwd c 11) agR 1 11, Nc) ((payList c).drop 135) rfl

theorem owed_step_135 (c : Dev nD) : owedAfter c 135 = owedAfter c 136 + tallyAt (dmaCell (fwd c 12) agR 1 12) () Nc :=
  owedAfter_step c 135 (dmaCell (fwd c 12) agR 1 12, Nc) ((payList c).drop 136) rfl

theorem owed_step_136 (c : Dev nD) : owedAfter c 136 = owedAfter c 137 + tallyAt (dmaCell (fwd c 13) agR 1 13) () Nc :=
  owedAfter_step c 136 (dmaCell (fwd c 13) agR 1 13, Nc) ((payList c).drop 137) rfl

theorem owed_step_137 (c : Dev nD) : owedAfter c 137 = owedAfter c 138 + tallyAt (dmaCell (fwd c 14) agR 1 14) () Nc :=
  owedAfter_step c 137 (dmaCell (fwd c 14) agR 1 14, Nc) ((payList c).drop 138) rfl

theorem owed_step_138 (c : Dev nD) : owedAfter c 138 = owedAfter c 139 + tallyAt (dmaCell (fwd c 15) agR 1 15) () Nc :=
  owedAfter_step c 138 (dmaCell (fwd c 15) agR 1 15, Nc) ((payList c).drop 139) rfl

theorem owed_step_139 (c : Dev nD) : owedAfter c 139 = owedAfter c 140 + tallyAt (dmaCell (fwd c 16) agR 1 16) () Nc :=
  owedAfter_step c 139 (dmaCell (fwd c 16) agR 1 16, Nc) ((payList c).drop 140) rfl

theorem owed_step_140 (c : Dev nD) : owedAfter c 140 = owedAfter c 141 + tallyAt (dmaCell (fwd c 17) agR 1 17) () Nc :=
  owedAfter_step c 140 (dmaCell (fwd c 17) agR 1 17, Nc) ((payList c).drop 141) rfl

theorem owed_step_141 (c : Dev nD) : owedAfter c 141 = owedAfter c 142 + tallyAt (dmaCell (fwd c 18) agR 1 18) () Nc :=
  owedAfter_step c 141 (dmaCell (fwd c 18) agR 1 18, Nc) ((payList c).drop 142) rfl

theorem owed_step_142 (c : Dev nD) : owedAfter c 142 = owedAfter c 143 + tallyAt (dmaCell (fwd c 19) agR 1 19) () Nc :=
  owedAfter_step c 142 (dmaCell (fwd c 19) agR 1 19, Nc) ((payList c).drop 143) rfl

theorem owed_step_143 (c : Dev nD) : owedAfter c 143 = owedAfter c 144 + tallyAt (dmaCell (fwd c 20) agR 1 20) () Nc :=
  owedAfter_step c 143 (dmaCell (fwd c 20) agR 1 20, Nc) ((payList c).drop 144) rfl

theorem owed_step_144 (c : Dev nD) : owedAfter c 144 = owedAfter c 145 + tallyAt (dmaCell (fwd c 21) agR 1 21) () Nc :=
  owedAfter_step c 144 (dmaCell (fwd c 21) agR 1 21, Nc) ((payList c).drop 145) rfl

theorem owed_step_145 (c : Dev nD) : owedAfter c 145 = owedAfter c 146 + tallyAt (dmaCell (fwd c 22) agR 1 22) () Nc :=
  owedAfter_step c 145 (dmaCell (fwd c 22) agR 1 22, Nc) ((payList c).drop 146) rfl

theorem owed_step_146 (c : Dev nD) : owedAfter c 146 = owedAfter c 147 + tallyAt (dmaCell (fwd c 23) agR 1 23) () Nc :=
  owedAfter_step c 146 (dmaCell (fwd c 23) agR 1 23, Nc) ((payList c).drop 147) rfl

theorem owed_step_147 (c : Dev nD) : owedAfter c 147 = owedAfter c 148 + tallyAt (dmaCell (fwd c 24) agR 1 24) () Nc :=
  owedAfter_step c 147 (dmaCell (fwd c 24) agR 1 24, Nc) ((payList c).drop 148) rfl

theorem owed_step_148 (c : Dev nD) : owedAfter c 148 = owedAfter c 149 + tallyAt (dmaCell (fwd c 25) agR 1 25) () Nc :=
  owedAfter_step c 148 (dmaCell (fwd c 25) agR 1 25, Nc) ((payList c).drop 149) rfl

theorem owed_step_149 (c : Dev nD) : owedAfter c 149 = owedAfter c 150 + tallyAt (dmaCell (fwd c 26) agR 1 26) () Nc :=
  owedAfter_step c 149 (dmaCell (fwd c 26) agR 1 26, Nc) ((payList c).drop 150) rfl

theorem owed_step_150 (c : Dev nD) : owedAfter c 150 = owedAfter c 151 + tallyAt (dmaCell (fwd c 27) agR 1 27) () Nc :=
  owedAfter_step c 150 (dmaCell (fwd c 27) agR 1 27, Nc) ((payList c).drop 151) rfl

theorem owed_step_151 (c : Dev nD) : owedAfter c 151 = owedAfter c 152 + tallyAt (dmaCell (fwd c 28) agR 1 28) () Nc :=
  owedAfter_step c 151 (dmaCell (fwd c 28) agR 1 28, Nc) ((payList c).drop 152) rfl

theorem owed_step_152 (c : Dev nD) : owedAfter c 152 = owedAfter c 153 + tallyAt (dmaCell (fwd c 29) agR 1 29) () Nc :=
  owedAfter_step c 152 (dmaCell (fwd c 29) agR 1 29, Nc) ((payList c).drop 153) rfl

theorem owed_step_153 (c : Dev nD) : owedAfter c 153 = owedAfter c 154 + tallyAt (dmaCell (fwd c 30) agR 1 30) () Nc :=
  owedAfter_step c 153 (dmaCell (fwd c 30) agR 1 30, Nc) ((payList c).drop 154) rfl

theorem owed_step_154 (c : Dev nD) : owedAfter c 154 = owedAfter c 155 + tallyAt (dmaCell (fwd c 31) agR 1 31) () Nc :=
  owedAfter_step c 154 (dmaCell (fwd c 31) agR 1 31, Nc) ((payList c).drop 155) rfl

theorem owed_end (c : Dev nD) : owedAfter c 155 = 0 := rfl

end Cert.KernelIdeal.AllReduce

end
-- ==== Proof.OwedWaits.lean ====
import proofs.«900438_g7700000000000439_dist_gemm_ar_m1024_k1024_n1024_f32_gelu_v7x_i32_1_alg».proof.Proof.Owed
import proofs.«900438_g7700000000000439_dist_gemm_ar_m1024_k1024_n1024_f32_gelu_v7x_i32_1_alg».proof.Proof.LaunchRun

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The waits' ledger evidence, at the points of the program where they stand -/

omit [FloatOps F] in
theorem drop_signals (c : Dev nD) : (payList c).drop 31
    = ks.map (fun k => (dmaCell (fwd c k) rsR 0 k, Nc)) ++ ks.map (fun k => (dmaCell (fwd c k) rsR 1 k, Nc))
      ++ ks.map (fun k => (dmaCell (fwd c k) agR 0 k, Nc)) ++ ks.map (fun k => (dmaCell (fwd c k) agR 1 k, Nc)) := rfl
omit [FloatOps F] in
theorem drop_reduce (c : Dev nD) : (payList c).drop 93
    = ks.map (fun k => (dmaCell (fwd c k) agR 0 k, Nc)) ++ ks.map (fun k => (dmaCell (fwd c k) agR 1 k, Nc)) := rfl
omit [FloatOps F] in
theorem drop_gather0 (c : Dev nD) : (payList c).drop 124 = ks.map (fun k => (dmaCell (fwd c k) agR 1 k, Nc)) := rfl

omit [FloatOps F] in
/-- The barrier wait: the 31 signals paid, the 124 copies owed, all to receive cells. -/
theorem mayWait_bar31 (c : Dev nD) : (levAts L lv : sProp 𝕄) ⊢ MayWait (c : Thread nD τ) (.reg barS) () (owedAfter c 31) :=
  mayWait_bar c ((payList c).drop 31) fun p hp => by
    rw [drop_signals] at hp
    simp only [List.mem_append, List.mem_map] at hp
    rcases hp with ((⟨k, -, rfl⟩ | ⟨k, -, rfl⟩) | ⟨k, -, rfl⟩) | ⟨k, -, rfl⟩
    · exact ⟨_, _, _, Or.inl rfl⟩
    · exact ⟨_, _, _, Or.inl rfl⟩
    · exact ⟨_, _, _, Or.inr rfl⟩
    · exact ⟨_, _, _, Or.inr rfl⟩

omit [FloatOps F] in
/-- The waits on the receive cells of the reduce phase, half 0: the gather copies owed. -/
theorem mayWait_rsR0 (c : Dev nD) (k : Fin 32) : (levAts L lv : sProp 𝕄) ⊢ MayWait (c : Thread nD τ) (.dma (semAt (arr rsR) 0 k)) () (owedAfter c 93) :=
  mayWait_rsR c 0 k ((payList c).drop 93) fun p hp => by
    rw [drop_reduce] at hp
    simp only [List.mem_append, List.mem_map] at hp
    rcases hp with ⟨k, -, rfl⟩ | ⟨k, -, rfl⟩
    · exact ⟨_, _, _, rfl⟩
    · exact ⟨_, _, _, rfl⟩

omit [FloatOps F] in
/-- Half 1: the gather copies of half 1 owed. -/
theorem mayWait_rsR1 (c : Dev nD) (k : Fin 32) : (levAts L lv : sProp 𝕄) ⊢ MayWait (c : Thread nD τ) (.dma (semAt (arr rsR) 1 k)) () (owedAfter c 124) :=
  mayWait_rsR c 1 k ((payList c).drop 124) fun p hp => by
    rw [drop_gather0] at hp
    simp only [List.mem_map] at hp
    obtain ⟨k, -, rfl⟩ := hp
    exact ⟨_, _, _, rfl⟩

omit [FloatOps F] in
/-- A wait with nothing owed. -/
theorem mayWait_end (c : Dev nD) (sm : SemLoc sig) : (levAts L lv : sProp 𝕄) ⊢ MayWait (c : Thread nD τ) sm () (owedAfter c 155) := by
  rw [show owedAfter c 155 = 0 from rfl, MayWait_zero]; iintro -; iempintro

omit [FloatOps F] in
/-- A wait on a send cell (level 0), whatever is still owed. -/
theorem mayWait_send (c : Dev nD) (p : Phase) (hp : p = rsS ∨ p = agS) (h : Fin 2) (k : Fin 32) (n : ℕ) :
    (levAts L lv : sProp 𝕄) ⊢ MayWait (c : Thread nD τ) (.dma (semAt (arr p) h k)) () (owedAfter c n) :=
  mayWait_low c _ (by rw [lv_dma]; rcases hp with rfl | rfl <;> rfl) ((payList c).drop n)
    fun q hq => payList_levels c q (List.mem_of_mem_drop hq)

end Cert.KernelIdeal.AllReduce

end
-- ==== Proof.BodyGlue.lean ====
import proofs.«900438_g7700000000000439_dist_gemm_ar_m1024_k1024_n1024_f32_gelu_v7x_i32_1_alg».proof.Proof.Ghost

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The barrier wait's payloads, by the offset of the peer that signalled -/

omit [FloatOps F] in
theorem opp_opp : ∀ k : Fin 32, opp (opp k) = k := by decide +kernel
omit [FloatOps F] in
theorem opp_injective : Function.Injective opp := fun a b h => by rw [← opp_opp a, h, opp_opp]
omit [FloatOps F] in
theorem erase_map_opp : (Finset.univ.erase (0 : Fin 32)).map ⟨opp, opp_injective⟩ = Finset.univ.erase 0 := by decide +kernel

/-- What the signal of the device k places on hands device c: that device's two receive slots of offset k and its two
    gather rows of c's chunk, each whole at anything, and that its four receive cells of offset k stand at round 0. -/
def barGot (c : Dev nD) (k : Fin 32) : sProp 𝕄 :=
  iprop((∃ f, (slot 0 k).view.loc (fwd c k : Thread nD τ) ↦[(slot 0 k).view.set]{fullShare} f)
    ∗ (∃ f, (slot 1 k).view.loc (fwd c k : Thread nD τ) ↦[(slot 1 k).view.set]{fullShare} f)
    ∗ (∃ f, (chunk outM c 0).view.loc (fwd c k : Thread nD τ) ↦[(chunk outM c 0).view.set]{fullShare} f)
    ∗ (∃ f, (chunk outM c 1).view.loc (fwd c k : Thread nD τ) ↦[(chunk outM c 1).view.set]{fullShare} f)
    ∗ reached ER (dmaCell (fwd c k) rsR 0 k) 0 ∗ reached ER (dmaCell (fwd c k) rsR 1 k) 0
    ∗ reached ER (dmaCell (fwd c k) agR 0 k) 0 ∗ reached ER (dmaCell (fwd c k) agR 1 k) 0)

omit [FloatOps F] in
/-- The payload of duty opp k of c's barrier cell — the duty the device k places on pays — with the peer resolved. -/
theorem barPay_opp (c : Dev nD) (k : Fin 32) : (barPay c (opp k) : sProp 𝕄) = barGot c k := by
  unfold barPay barGot
  rw [bwd_opp, opp_opp]

omit [FloatOps F] in
theorem bar_payloads (c : Dev nD) : (bigSep (Finset.univ.erase (0 : Fin 32)) (fun d => (barPay c d : sProp 𝕄))) = bigSepL ks (fun k => barGot c k) := by
  conv_lhs => rw [← erase_map_opp, bigSep_map]
  rw [bigSep_eq_bigSepL_of_eq ks (by decide) (by decide)]
  simp only [Function.Embedding.coeFn_mk, barPay_opp]

/-- What the barrier wait returns, as 31 bundles by offset. -/
theorem rest_bar (c : Dev nD) :
    bigSep ((sched (F := F) m).duties (barCell c) 0 \ ∅) (fun d => (sched (F := F) m).payload (barCell c) 0 d) = bigSepL ks (fun k => barGot c k) := by
  rw [duties_bar, Finset.sdiff_empty]
  simp only [payload_bar]
  exact bar_payloads c

/-! ## Closing the cells -/

/-- A cell past its one round closes: its counter at zero is the device's again. -/
theorem close_cell (κ : ℕ) (g : GSem nD τ sig) :
    iprop(cellInv ER (sched m) κ g ∗ atPos ER g 1 ∅ 0) ⊢ (|={Set.univ}=> semVal g 0 : sProp 𝕄) :=
  Rounds.cell_close ER (sched m) (Set.mem_univ κ) (fun h => h) (R := 1) (duties_later m g)

/-- The 31 cells of array p, half h. -/
theorem close_cells (K : GSem nD τ sig → ℕ) (c : Dev nD) (p : Phase) (h : Fin 2) :
    bigSepL ks (fun k => iprop(cellInv ER (sched m) (K (dmaCell c p h k)) (dmaCell c p h k) ∗ atPos ER (dmaCell c p h k) 1 ∅ 0))
      ⊢ (|={Set.univ}=> bigSepL ks (fun k => semVal (dmaCell c p h k) 0) : sProp 𝕄) := by
  rw [← bigSep_eq_bigSepL ks (by decide), ← bigSep_eq_bigSepL ks (by decide)]
  exact (bigSep_mono fun k _ => close_cell m (K (dmaCell c p h k)) (dmaCell c p h k)).trans (bigSep_fupd _ _)

/-! ## The chunk cells' payloads, with the peer resolved -/

section Payloads
variable (c : Dev nD) (h : Fin 2) (k : Fin 32)

/-- Owner side. -/
theorem payload_rsS : (sched m).payload (dmaCell c rsS h k) 0 (0 : Fin 32)
    = ((chunk accM (fwd c k) h).view.loc (c : Thread nD τ) ↦[(chunk accM (fwd c k) h).view.set]{fullShare} (chunk accM (fwd c k) h).view.rep (sent m c (fwd c k) h)) := by
  rw [payload_dma]; rfl
theorem payload_rsR : (sched m).payload (dmaCell c rsR h k) 0 (0 : Fin 32)
    = ((slot h k).view.loc (c : Thread nD τ) ↦[(slot h k).view.set]{fullShare} (slot h k).view.rep (sent m (bwd c k) c h)) := by
  rw [payload_dma]; rfl
theorem payload_agS : (sched m).payload (dmaCell c agS h k) 0 (0 : Fin 32)
    = ((chunk outM c h).view.loc (c : Thread nD τ) ↦[(chunk outM c h).view.set]{shr k} (chunk outM c h).view.rep (reduced m c h)) := by
  rw [payload_dma]; rfl
theorem payload_agR : (sched m).payload (dmaCell c agR h k) 0 (0 : Fin 32)
    = ((chunk outM (bwd c k) h).view.loc (c : Thread nD τ) ↦[(chunk outM (bwd c k) h).view.set]{fullShare} (chunk outM (bwd c k) h).view.rep (reduced m (bwd c k) h)) := by
  rw [payload_dma]; rfl

/-- Payer side: what device c's copies of offset k land on the device k places on. -/
theorem payload_rsR_to : (sched m).payload (dmaCell (fwd c k) rsR h k) 0 (0 : Fin 32)
    = ((slot h k).view.loc (fwd c k : Thread nD τ) ↦[(slot h k).view.set]{fullShare} (slot h k).view.rep (sent m c (fwd c k) h)) := by
  rw [payload_rsR, bwd_fwd]
theorem payload_agR_to : (sched m).payload (dmaCell (fwd c k) agR h k) 0 (0 : Fin 32)
    = ((chunk outM c h).view.loc (fwd c k : Thread nD τ) ↦[(chunk outM c h).view.set]{fullShare} (chunk outM c h).view.rep (reduced m c h)) := by
  rw [payload_agR, bwd_fwd]

end Payloads

end Cert.KernelIdeal.AllReduce

end
-- ==== Proof.SendRules.lean ====
/-
  The two remote copies of the all-reduce, one offset at a time: a row chunk of the partial product sent into the
  slot of the device `k` places on, and a finished chunk of the gather buffer sent into the same rows there.  The
  landing writes the block the source holds; held by the destination view's own elements, the destination at the
  block written is the destination at the block.
-/
import proofs.«900438_g7700000000000439_dist_gemm_ar_m1024_k1024_n1024_f32_gelu_v7x_i32_1_alg».proof.Proof.BodyGlue
import Idealize.ShloMosaic.Lib.Exec.Geometry
import Idealize.ShloMosaic.Lib.Exec.Context

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Held by the view's own elements, the buffer after a whole write of `X` through the view is the buffer at `X`. -/
theorem pointsTo_write_eq_rep {cs : Space} {s : Shape} {e : EltTy} (c' : Thread nD τ) (v : Memref sig c'.2.kind cs s e)
    (fd : Buf (Elt F) (v.view.loc c')) (X : s.Idx → Elt F e) (q : PosShare TreeShare) :
    (v.view.loc c' ↦[v.view.set]{q} v.view.write (Elt F) fd X Finset.univ : sProp 𝕄)
      = v.view.loc c' ↦[v.view.set]{q} v.view.rep X :=
  pointsTo_congr fun i hi => by
    obtain ⟨y, -, rfl⟩ := Finset.mem_map.mp hi
    rw [View.write_emb_of_mem _ _ (Finset.mem_univ _), View.rep_emb]

section Sends
variable (K : GSem nD τ sig → ℕ) (c : Dev nD) (h : Fin 2) (k : Fin 32)

/-- THE REDUCE COPY of offset `k`, half `h`: row chunk `fwd c k` of `c`'s partial product into slot `k` of the device `k` places on. -/
theorem wp_send_rs (hk : k ≠ 0)
    {hsc : (slot h k).view.ref.isScScratch = false}
    {hsrc : (chunk accM (fwd c k) h).view.WordExact} {hdst : (slot h k).view.WordExact}
    {hsem : DmaTarget.Typed .vmem (.dma (semAt (arr rsR) h k)) (.remote (Dev.tc (fwd c k) : Thread nD τ) (slot h k) (.dma (semAt (arr rsS) h k)) hsc)}
    {α : Type} {Q : α → sProp (MT nD τ sig Unit (Elt F) ℕ UU ℕ)} {kk : PUnit → Prog (TpuEff nD τ sig (Elt F) Λ₀ .tc) α}
    (fd : Buf (Elt F) ((slot h k).view.loc (fwd c k : Thread nD τ))) (W : Waits sig Unit) (O O' : CellTallies nD τ sig Unit)
    (hO : O = O' + tallyAt (dmaCell (fwd c k) rsR h k) () Nc) :
    (iprop(cellInv ER (sched m) (K (dmaCell c rsS h k)) (dmaCell c rsS h k) ∗ cellInv ER (sched m) (K (dmaCell (fwd c k) rsR h k)) (dmaCell (fwd c k) rsR h k)
        ∗ ((chunk accM (fwd c k) h).view.loc (c : Thread nD τ) ↦[(chunk accM (fwd c k) h).view.set]{fullShare} (chunk accM (fwd c k) h).view.rep (sent m c (fwd c k) h))
        ∗ ((slot h k).view.loc (fwd c k : Thread nD τ) ↦[(slot h k).view.set]{fullShare} fd)
        ∗ owes (c : Thread nD τ) O W
        ∗ dutyTok ER (dmaCell c rsS h k) 0 (0 : Fin 32) ∗ reached ER (dmaCell c rsS h k) 0
        ∗ dutyTok ER (dmaCell (fwd c k) rsR h k) 0 (0 : Fin 32) ∗ reached ER (dmaCell (fwd c k) rsR h k) 0) : sProp 𝕄)
      ⊢ iprop(((cred (tallyAt (dmaCell c rsS h k) () Nc) ∗ owes (c : Thread nD τ) O' W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (chunk accM (fwd c k) h) (.remote (Dev.tc (fwd c k) : Thread nD τ) (slot h k) (.dma (semAt (arr rsS) h k)) hsc)
                (.dma (semAt (arr rsR) h k)) hsrc hdst hsem) kk) Q) := by
  have hpay₁ : ((chunk accM (fwd c k) h).view.loc (c : Thread nD τ) ↦[(chunk accM (fwd c k) h).view.set]{fullShare}
        (chunk accM (fwd c k) h).view.rep (sent m c (fwd c k) h) : sProp 𝕄)
      ⊢ (sched m).payload (dmaCell c rsS h k) 0 (0 : Fin 32) := Entails.of_eq (payload_rsS m c h k).symm
  have hpay₂ : ((slot h k).view.loc (fwd c k : Thread nD τ) ↦[(slot h k).view.set]{fullShare}
        ((slot h k).view.write (Elt F) fd
          ((chunk accM (fwd c k) h).view.read (Elt F) ((chunk accM (fwd c k) h).view.rep (sent m c (fwd c k) h))) Finset.univ) : sProp 𝕄)
      ⊢ (sched m).payload (dmaCell (fwd c k) rsR h k) 0 (0 : Fin 32) := by
    rw [payload_rsR_to, View.read_rep]
    exact Entails.of_eq (pointsTo_write_eq_rep (fwd c k : Thread nD τ) (slot h k) fd (sent m c (fwd c k) h) fullShare)
  exact Rounds.wp_send_pointsTo (defs := defs₀ (F := F)) (Γ := .empty) (Q := Q) 𝒱₀ ER (sched m) (c : Thread nD τ) none
    (c' := (fwd c k : Thread nD τ)) (src := chunk accM (fwd c k) h) (dst := slot h k) (hsc := hsc)
    (sS := .dma (semAt (arr rsS) h k)) (sem := .dma (semAt (arr rsR) h k)) (hsrc := hsrc) (hdst := hdst) (hsem := hsem) (k := kk)
    (q := fullShare) (fs := (chunk accM (fwd c k) h).view.rep (sent m c (fwd c k) h)) (fd := fd)
    (r₁ := 0) (r₂ := 0) (d₁ := (0 : Fin 32)) (d₂ := (0 : Fin 32))
    (κ₁ := K (dmaCell c rsS h k)) (κ₂ := K (dmaCell (fwd c k) rsR h k))
    (by rw [duties_dma m c rsS h k hk]; exact Finset.mem_singleton_self _)
    (by rw [duties_dma m (fwd c k) rsR h k hk]; exact Finset.mem_singleton_self _)
    () () Nc rfl (amount_dma m c rsS h k 0) (amount_dma m (fwd c k) rsR h k 0) O' hO (W := W) hpay₁ hpay₂ (Es := Set.univ) (Topo.routes_tc _ _)

/-- THE GATHER COPY of offset `k`, half `h`: `c`'s finished chunk into the same rows of the gather buffer of the device `k` places on;
    the source is lent at the share of offset `k`. -/
theorem wp_send_ag (hk : k ≠ 0)
    {hsc : (chunk outM c h).view.ref.isScScratch = false}
    {hsrc : (chunk outM c h).view.WordExact} {hdst : (chunk outM c h).view.WordExact}
    {hsem : DmaTarget.Typed .vmem (.dma (semAt (arr agR) h k)) (.remote (Dev.tc (fwd c k) : Thread nD τ) (chunk outM c h) (.dma (semAt (arr agS) h k)) hsc)}
    {α : Type} {Q : α → sProp (MT nD τ sig Unit (Elt F) ℕ UU ℕ)} {kk : PUnit → Prog (TpuEff nD τ sig (Elt F) Λ₀ .tc) α}
    (fd : Buf (Elt F) ((chunk outM c h).view.loc (fwd c k : Thread nD τ))) (W : Waits sig Unit) (O O' : CellTallies nD τ sig Unit)
    (hO : O = O' + tallyAt (dmaCell (fwd c k) agR h k) () Nc) :
    (iprop(cellInv ER (sched m) (K (dmaCell c agS h k)) (dmaCell c agS h k) ∗ cellInv ER (sched m) (K (dmaCell (fwd c k) agR h k)) (dmaCell (fwd c k) agR h k)
        ∗ ((chunk outM c h).view.loc (c : Thread nD τ) ↦[(chunk outM c h).view.set]{shr k} (chunk outM c h).view.rep (reduced m c h))
        ∗ ((chunk outM c h).view.loc (fwd c k : Thread nD τ) ↦[(chunk outM c h).view.set]{fullShare} fd)
        ∗ owes (c : Thread nD τ) O W
        ∗ dutyTok ER (dmaCell c agS h k) 0 (0 : Fin 32) ∗ reached ER (dmaCell c agS h k) 0
        ∗ dutyTok ER (dmaCell (fwd c k) agR h k) 0 (0 : Fin 32) ∗ reached ER (dmaCell (fwd c k) agR h k) 0) : sProp 𝕄)
      ⊢ iprop(((cred (tallyAt (dmaCell c agS h k) () Nc) ∗ owes (c : Thread nD τ) O' W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (chunk outM c h) (.remote (Dev.tc (fwd c k) : Thread nD τ) (chunk outM c h) (.dma (semAt (arr agS) h k)) hsc)
                (.dma (semAt (arr agR) h k)) hsrc hdst hsem) kk) Q) := by
  have hpay₁ : ((chunk outM c h).view.loc (c : Thread nD τ) ↦[(chunk outM c h).view.set]{shr k} (chunk outM c h).view.rep (reduced m c h) : sProp 𝕄)
      ⊢ (sched m).payload (dmaCell c agS h k) 0 (0 : Fin 32) := Entails.of_eq (payload_agS m c h k).symm
  have hpay₂ : ((chunk outM c h).view.loc (fwd c k : Thread nD τ) ↦[(chunk outM c h).view.set]{fullShare}
        ((chunk outM c h).view.write (Elt F) fd
          ((chunk outM c h).view.read (Elt F) ((chunk outM c h).view.rep (reduced m c h))) Finset.univ) : sProp 𝕄)
      ⊢ (sched m).payload (dmaCell (fwd c k) agR h k) 0 (0 : Fin 32) := by
    rw [payload_agR_to, View.read_rep]
    exact Entails.of_eq (pointsTo_write_eq_rep (fwd c k : Thread nD τ) (chunk outM c h) fd (reduced m c h) fullShare)
  exact Rounds.wp_send_pointsTo (defs := defs₀ (F := F)) (Γ := .empty) (Q := Q) 𝒱₀ ER (sched m) (c : Thread nD τ) none
    (c' := (fwd c k : Thread nD τ)) (src := chunk outM c h) (dst := chunk outM c h) (hsc := hsc)
    (sS := .dma (semAt (arr agS) h k)) (sem := .dma (semAt (arr agR) h k)) (hsrc := hsrc) (hdst := hdst) (hsem := hsem) (k := kk)
    (q := shr k) (fs := (chunk outM c h).view.rep (reduced m c h)) (fd := fd)
    (r₁ := 0) (r₂ := 0) (d₁ := (0 : Fin 32)) (d₂ := (0 : Fin 32))
    (κ₁ := K (dmaCell c agS h k)) (κ₂ := K (dmaCell (fwd c k) agR h k))
    (by rw [duties_dma m c agS h k hk]; exact Finset.mem_singleton_self _)
    (by rw [duties_dma m (fwd c k) agR h k hk]; exact Finset.mem_singleton_self _)
    () () Nc rfl (amount_dma m c agS h k 0) (amount_dma m (fwd c k) agR h k 0) O' hO (W := W) hpay₁ hpay₂ (Es := Set.univ) (Topo.routes_tc _ _)

end Sends

/-- info: 'Cert.KernelIdeal.AllReduce.wp_send_rs' depends on axioms: [propext, Classical.choice, Quot.sound] -/
#guard_msgs in #print axioms wp_send_rs

/-- info: 'Cert.KernelIdeal.AllReduce.wp_send_ag' depends on axioms: [propext, Classical.choice, Quot.sound] -/
#guard_msgs in #print axioms wp_send_ag

end Cert.KernelIdeal.AllReduce

end
-- ==== Proof.BodyTables.lean ====
/-
  The schedule's payload entries spelt out at the cells a device pays into and at the cells it owns: the rewrites by which
  the symbolic run reads what a signal or a wait hands over.
-/
import proofs.«900438_g7700000000000439_dist_gemm_ar_m1024_k1024_n1024_f32_gelu_v7x_i32_1_alg».proof.Proof.Owed
import proofs.«900438_g7700000000000439_dist_gemm_ar_m1024_k1024_n1024_f32_gelu_v7x_i32_1_alg».proof.Proof.Names
import proofs.«900438_g7700000000000439_dist_gemm_ar_m1024_k1024_n1024_f32_gelu_v7x_i32_1_alg».proof.Proof.OwedSteps
import proofs.«900438_g7700000000000439_dist_gemm_ar_m1024_k1024_n1024_f32_gelu_v7x_i32_1_alg».proof.Proof.OwedWaits
import proofs.«900438_g7700000000000439_dist_gemm_ar_m1024_k1024_n1024_f32_gelu_v7x_i32_1_alg».proof.Proof.SendRules
noncomputable section
namespace Cert.KernelIdeal.AllReduce
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

theorem pay_bar_payer (c : Dev nD) (k : Fin 32) : (sched (F := F) m).payload (barCell (fwd c k)) 0 k =
    iprop((∃ f, (slot 0 (opp k)).view.loc (c : Thread nD τ) ↦[(slot 0 (opp k)).view.set]{fullShare} f)
    ∗ (∃ f, (slot 1 (opp k)).view.loc (c : Thread nD τ) ↦[(slot 1 (opp k)).view.set]{fullShare} f)
    ∗ (∃ f, (chunk outM (fwd c k) 0).view.loc (c : Thread nD τ) ↦[(chunk outM (fwd c k) 0).view.set]{fullShare} f)
    ∗ (∃ f, (chunk outM (fwd c k) 1).view.loc (c : Thread nD τ) ↦[(chunk outM (fwd c k) 1).view.set]{fullShare} f)
    ∗ reached ER (dmaCell c rsR 0 (opp k)) 0 ∗ reached ER (dmaCell c rsR 1 (opp k)) 0
    ∗ reached ER (dmaCell c agR 0 (opp k)) 0 ∗ reached ER (dmaCell c agR 1 (opp k)) 0) := by
  rw [payload_bar]; unfold barPay; rw [bwd_fwd]
theorem pay_rsS (c : Dev nD) (h : Fin 2) (k : Fin 32) : (sched (F := F) m).payload (dmaCell c rsS h k) 0 (0 : Fin 32)
    = ((chunk accM (fwd c k) h).view.loc (c : Thread nD τ) ↦[(chunk accM (fwd c k) h).view.set]{fullShare} (chunk accM (fwd c k) h).view.rep (sent m c (fwd c k) h)) := by rw [payload_dma]; rfl
theorem pay_rsR (c : Dev nD) (h : Fin 2) (k : Fin 32) : (sched (F := F) m).payload (dmaCell c rsR h k) 0 (0 : Fin 32)
    = ((slot h k).view.loc (c : Thread nD τ) ↦[(slot h k).view.set]{fullShare} (slot h k).view.rep (sent m (bwd c k) c h)) := by rw [payload_dma]; rfl
theorem pay_agS (c : Dev nD) (h : Fin 2) (k : Fin 32) : (sched (F := F) m).payload (dmaCell c agS h k) 0 (0 : Fin 32)
    = ((chunk outM c h).view.loc (c : Thread nD τ) ↦[(chunk outM c h).view.set]{shr k} (chunk outM c h).view.rep (reduced m c h)) := by rw [payload_dma]; rfl
theorem pay_agR (c : Dev nD) (h : Fin 2) (k : Fin 32) : (sched (F := F) m).payload (dmaCell c agR h k) 0 (0 : Fin 32)
    = ((chunk outM (bwd c k) h).view.loc (c : Thread nD τ) ↦[(chunk outM (bwd c k) h).view.set]{fullShare} (chunk outM (bwd c k) h).view.rep (reduced m (bwd c k) h)) := by rw [payload_dma]; rfl

/-! The same at each literal offset, the slot index evaluated (offset k speaks of slot 32 − k). -/

theorem pay_bar_payer_1 (c : Dev nD) : (sched (F := F) m).payload (barCell (fwd c 1)) 0 (1 : Fin 32) =
    iprop((∃ f, (slot 0 31).view.loc (c : Thread nD τ) ↦[(slot 0 31).view.set]{fullShare} f)
    ∗ (∃ f, (slot 1 31).view.loc (c : Thread nD τ) ↦[(slot 1 31).view.set]{fullShare} f)
    ∗ (∃ f, (chunk outM (fwd c 1) 0).view.loc (c : Thread nD τ) ↦[(chunk outM (fwd c 1) 0).view.set]{fullShare} f)
    ∗ (∃ f, (chunk outM (fwd c 1) 1).view.loc (c : Thread nD τ) ↦[(chunk outM (fwd c 1) 1).view.set]{fullShare} f)
    ∗ reached ER (dmaCell c rsR 0 31) 0 ∗ reached ER (dmaCell c rsR 1 31) 0
    ∗ reached ER (dmaCell c agR 0 31) 0 ∗ reached ER (dmaCell c agR 1 31) 0) := pay_bar_payer m c 1
theorem pay_bar_payer_2 (c : Dev nD) : (sched (F := F) m).payload (barCell (fwd c 2)) 0 (2 : Fin 32) =
    iprop((∃ f, (slot 0 30).view.loc (c : Thread nD τ) ↦[(slot 0 30).view.set]{fullShare} f)
    ∗ (∃ f, (slot 1 30).view.loc (c : Thread nD τ) ↦[(slot 1 30).view.set]{fullShare} f)
    ∗ (∃ f, (chunk outM (fwd c 2) 0).view.loc (c : Thread nD τ) ↦[(chunk outM (fwd c 2) 0).view.set]{fullShare} f)
    ∗ (∃ f, (chunk outM (fwd c 2) 1).view.loc (c : Thread nD τ) ↦[(chunk outM (fwd c 2) 1).view.set]{fullShare} f)
    ∗ reached ER (dmaCell c rsR 0 30) 0 ∗ reached ER (dmaCell c rsR 1 30) 0
    ∗ reached ER (dmaCell c agR 0 30) 0 ∗ reached ER (dmaCell c agR 1 30) 0) := pay_bar_payer m c 2
theorem pay_bar_payer_3 (c : Dev nD) : (sched (F := F) m).payload (barCell (fwd c 3)) 0 (3 : Fin 32) =
    iprop((∃ f, (slot 0 29).view.loc (c : Thread nD τ) ↦[(slot 0 29).view.set]{fullShare} f)
    ∗ (∃ f, (slot 1 29).view.loc (c : Thread nD τ) ↦[(slot 1 29).view.set]{fullShare} f)
    ∗ (∃ f, (chunk outM (fwd c 3) 0).view.loc (c : Thread nD τ) ↦[(chunk outM (fwd c 3) 0).view.set]{fullShare} f)
    ∗ (∃ f, (chunk outM (fwd c 3) 1).view.loc (c : Thread nD τ) ↦[(chunk outM (fwd c 3) 1).view.set]{fullShare} f)
    ∗ reached ER (dmaCell c rsR 0 29) 0 ∗ reached ER (dmaCell c rsR 1 29) 0
    ∗ reached ER (dmaCell c agR 0 29) 0 ∗ reached ER (dmaCell c agR 1 29) 0) := pay_bar_payer m c 3
theorem pay_bar_payer_4 (c : Dev nD) : (sched (F := F) m).payload (barCell (fwd c 4)) 0 (4 : Fin 32) =
    iprop((∃ f, (slot 0 28).view.loc (c : Thread nD τ) ↦[(slot 0 28).view.set]{fullShare} f)
    ∗ (∃ f, (slot 1 28).view.loc (c : Thread nD τ) ↦[(slot 1 28).view.set]{fullShare} f)
    ∗ (∃ f, (chunk outM (fwd c 4) 0).view.loc (c : Thread nD τ) ↦[(chunk outM (fwd c 4) 0).view.set]{fullShare} f)
    ∗ (∃ f, (chunk outM (fwd c 4) 1).view.loc (c : Thread nD τ) ↦[(chunk outM (fwd c 4) 1).view.set]{fullShare} f)
    ∗ reached ER (dmaCell c rsR 0 28) 0 ∗ reached ER (dmaCell c rsR 1 28) 0
    ∗ reached ER (dmaCell c agR 0 28) 0 ∗ reached ER (dmaCell c agR 1 28) 0) := pay_bar_payer m c 4
theorem pay_bar_payer_5 (c : Dev nD) : (sched (F := F) m).payload (barCell (fwd c 5)) 0 (5 : Fin 32) =
    iprop((∃ f, (slot 0 27).view.loc (c : Thread nD τ) ↦[(slot 0 27).view.set]{fullShare} f)
    ∗ (∃ f, (slot 1 27).view.loc (c : Thread nD τ) ↦[(slot 1 27).view.set]{fullShare} f)
    ∗ (∃ f, (chunk outM (fwd c 5) 0).view.loc (c : Thread nD τ) ↦[(chunk outM (fwd c 5) 0).view.set]{fullShare} f)
    ∗ (∃ f, (chunk outM (fwd c 5) 1).view.loc (c : Thread nD τ) ↦[(chunk outM (fwd c 5) 1).view.set]{fullShare} f)
    ∗ reached ER (dmaCell c rsR 0 27) 0 ∗ reached ER (dmaCell c rsR 1 27) 0
    ∗ reached ER (dmaCell c agR 0 27) 0 ∗ reached ER (dmaCell c agR 1 27) 0) := pay_bar_payer m c 5
theorem pay_bar_payer_6 (c : Dev nD) : (sched (F := F) m).payload (barCell (fwd c 6)) 0 (6 : Fin 32) =
    iprop((∃ f, (slot 0 26).view.loc (c : Thread nD τ) ↦[(slot 0 26).view.set]{fullShare} f)
    ∗ (∃ f, (slot 1 26).view.loc (c : Thread nD τ) ↦[(slot 1 26).view.set]{fullShare} f)
    ∗ (∃ f, (chunk outM (fwd c 6) 0).view.loc (c : Thread nD τ) ↦[(chunk outM (fwd c 6) 0).view.set]{fullShare} f)
    ∗ (∃ f, (chunk outM (fwd c 6) 1).view.loc (c : Thread nD τ) ↦[(chunk outM (fwd c 6) 1).view.set]{fullShare} f)
    ∗ reached ER (dmaCell c rsR 0 26) 0 ∗ reached ER (dmaCell c rsR 1 26) 0
    ∗ reached ER (dmaCell c agR 0 26) 0 ∗ reached ER (dmaCell c agR 1 26) 0) := pay_bar_payer m c 6
theorem pay_bar_payer_7 (c : Dev nD) : (sched (F := F) m).payload (barCell (fwd c 7)) 0 (7 : Fin 32) =
    iprop((∃ f, (slot 0 25).view.loc (c : Thread nD τ) ↦[(slot 0 25).view.set]{fullShare} f)
    ∗ (∃ f, (slot 1 25).view.loc (c : Thread nD τ) ↦[(slot 1 25).view.set]{fullShare} f)
    ∗ (∃ f, (chunk outM (fwd c 7) 0).view.loc (c : Thread nD τ) ↦[(chunk outM (fwd c 7) 0).view.set]{fullShare} f)
    ∗ (∃ f, (chunk outM (fwd c 7) 1).view.loc (c : Thread nD τ) ↦[(chunk outM (fwd c 7) 1).view.set]{fullShare} f)
    ∗ reached ER (dmaCell c rsR 0 25) 0 ∗ reached ER (dmaCell c rsR 1 25) 0
    ∗ reached ER (dmaCell c agR 0 25) 0 ∗ reached ER (dmaCell c agR 1 25) 0) := pay_bar_payer m c 7
theorem pay_bar_payer_8 (c : Dev nD) : (sched (F := F) m).payload (barCell (fwd c 8)) 0 (8 : Fin 32) =
    iprop((∃ f, (slot 0 24).view.loc (c : Thread nD τ) ↦[(slot 0 24).view.set]{fullShare} f)
    ∗ (∃ f, (slot 1 24).view.loc (c : Thread nD τ) ↦[(slot 1 24).view.set]{fullShare} f)
    ∗ (∃ f, (chunk outM (fwd c 8) 0).view.loc (c : Thread nD τ) ↦[(chunk outM (fwd c 8) 0).view.set]{fullShare} f)
    ∗ (∃ f, (chunk outM (fwd c 8) 1).view.loc (c : Thread nD τ) ↦[(chunk outM (fwd c 8) 1).view.set]{fullShare} f)
    ∗ reached ER (dmaCell c rsR 0 24) 0 ∗ reached ER (dmaCell c rsR 1 24) 0
    ∗ reached ER (dmaCell c agR 0 24) 0 ∗ reached ER (dmaCell c agR 1 24) 0) := pay_bar_payer m c 8
theorem pay_bar_payer_9 (c : Dev nD) : (sched (F := F) m).payload (barCell (fwd c 9)) 0 (9 : Fin 32) =
    iprop((∃ f, (slot 0 23).view.loc (c : Thread nD τ) ↦[(slot 0 23).view.set]{fullShare} f)
    ∗ (∃ f, (slot 1 23).view.loc (c : Thread nD τ) ↦[(slot 1 23).view.set]{fullShare} f)
    ∗ (∃ f, (chunk outM (fwd c 9) 0).view.loc (c : Thread nD τ) ↦[(chunk outM (fwd c 9) 0).view.set]{fullShare} f)
    ∗ (∃ f, (chunk outM (fwd c 9) 1).view.loc (c : Thread nD τ) ↦[(chunk outM (fwd c 9) 1).view.set]{fullShare} f)
    ∗ reached ER (dmaCell c rsR 0 23) 0 ∗ reached ER (dmaCell c rsR 1 23) 0
    ∗ reached ER (dmaCell c agR 0 23) 0 ∗ reached ER (dmaCell c agR 1 23) 0) := pay_bar_payer m c 9
theorem pay_bar_payer_10 (c : Dev nD) : (sched (F := F) m).payload (barCell (fwd c 10)) 0 (10 : Fin 32) =
    iprop((∃ f, (slot 0 22).view.loc (c : Thread nD τ) ↦[(slot 0 22).view.set]{fullShare} f)
    ∗ (∃ f, (slot 1 22).view.loc (c : Thread nD τ) ↦[(slot 1 22).view.set]{fullShare} f)
    ∗ (∃ f, (chunk outM (fwd c 10) 0).view.loc (c : Thread nD τ) ↦[(chunk outM (fwd c 10) 0).view.set]{fullShare} f)
    ∗ (∃ f, (chunk outM (fwd c 10) 1).view.loc (c : Thread nD τ) ↦[(chunk outM (fwd c 10) 1).view.set]{fullShare} f)
    ∗ reached ER (dmaCell c rsR 0 22) 0 ∗ reached ER (dmaCell c rsR 1 22) 0
    ∗ reached ER (dmaCell c agR 0 22) 0 ∗ reached ER (dmaCell c agR 1 22) 0) := pay_bar_payer m c 10
theorem pay_bar_payer_11 (c : Dev nD) : (sched (F := F) m).payload (barCell (fwd c 11)) 0 (11 : Fin 32) =
    iprop((∃ f, (slot 0 21).view.loc (c : Thread nD τ) ↦[(slot 0 21).view.set]{fullShare} f)
    ∗ (∃ f, (slot 1 21).view.loc (c : Thread nD τ) ↦[(slot 1 21).view.set]{fullShare} f)
    ∗ (∃ f, (chunk outM (fwd c 11) 0).view.loc (c : Thread nD τ) ↦[(chunk outM (fwd c 11) 0).view.set]{fullShare} f)
    ∗ (∃ f, (chunk outM (fwd c 11) 1).view.loc (c : Thread nD τ) ↦[(chunk outM (fwd c 11) 1).view.set]{fullShare} f)
    ∗ reached ER (dmaCell c rsR 0 21) 0 ∗ reached ER (dmaCell c rsR 1 21) 0
    ∗ reached ER (dmaCell c agR 0 21) 0 ∗ reached ER (dmaCell c agR 1 21) 0) := pay_bar_payer m c 11
theorem pay_bar_payer_12 (c : Dev nD) : (sched (F := F) m).payload (barCell (fwd c 12)) 0 (12 : Fin 32) =
    iprop((∃ f, (slot 0 20).view.loc (c : Thread nD τ) ↦[(slot 0 20).view.set]{fullShare} f)
    ∗ (∃ f, (slot 1 20).view.loc (c : Thread nD τ) ↦[(slot 1 20).view.set]{fullShare} f)
    ∗ (∃ f, (chunk outM (fwd c 12) 0).view.loc (c : Thread nD τ) ↦[(chunk outM (fwd c 12) 0).view.set]{fullShare} f)
    ∗ (∃ f, (chunk outM (fwd c 12) 1).view.loc (c : Thread nD τ) ↦[(chunk outM (fwd c 12) 1).view.set]{fullShare} f)
    ∗ reached ER (dmaCell c rsR 0 20) 0 ∗ reached ER (dmaCell c rsR 1 20) 0
    ∗ reached ER (dmaCell c agR 0 20) 0 ∗ reached ER (dmaCell c agR 1 20) 0) := pay_bar_payer m c 12
theorem pay_bar_payer_13 (c : Dev nD) : (sched (F := F) m).payload (barCell (fwd c 13)) 0 (13 : Fin 32) =
    iprop((∃ f, (slot 0 19).view.loc (c : Thread nD τ) ↦[(slot 0 19).view.set]{fullShare} f)
    ∗ (∃ f, (slot 1 19).view.loc (c : Thread nD τ) ↦[(slot 1 19).view.set]{fullShare} f)
    ∗ (∃ f, (chunk outM (fwd c 13) 0).view.loc (c : Thread nD τ) ↦[(chunk outM (fwd c 13) 0).view.set]{fullShare} f)
    ∗ (∃ f, (chunk outM (fwd c 13) 1).view.loc (c : Thread nD τ) ↦[(chunk outM (fwd c 13) 1).view.set]{fullShare} f)
    ∗ reached ER (dmaCell c rsR 0 19) 0 ∗ reached ER (dmaCell c rsR 1 19) 0
    ∗ reached ER (dmaCell c agR 0 19) 0 ∗ reached ER (dmaCell c agR 1 19) 0) := pay_bar_payer m c 13
theorem pay_bar_payer_14 (c : Dev nD) : (sched (F := F) m).payload (barCell (fwd c 14)) 0 (14 : Fin 32) =
    iprop((∃ f, (slot 0 18).view.loc (c : Thread nD τ) ↦[(slot 0 18).view.set]{fullShare} f)
    ∗ (∃ f, (slot 1 18).view.loc (c : Thread nD τ) ↦[(slot 1 18).view.set]{fullShare} f)
    ∗ (∃ f, (chunk outM (fwd c 14) 0).view.loc (c : Thread nD τ) ↦[(chunk outM (fwd c 14) 0).view.set]{fullShare} f)
    ∗ (∃ f, (chunk outM (fwd c 14) 1).view.loc (c : Thread nD τ) ↦[(chunk outM (fwd c 14) 1).view.set]{fullShare} f)
    ∗ reached ER (dmaCell c rsR 0 18) 0 ∗ reached ER (dmaCell c rsR 1 18) 0
    ∗ reached ER (dmaCell c agR 0 18) 0 ∗ reached ER (dmaCell c agR 1 18) 0) := pay_bar_payer m c 14
theorem pay_bar_payer_15 (c : Dev nD) : (sched (F := F) m).payload (barCell (fwd c 15)) 0 (15 : Fin 32) =
    iprop((∃ f, (slot 0 17).view.loc (c : Thread nD τ) ↦[(slot 0 17).view.set]{fullShare} f)
    ∗ (∃ f, (slot 1 17).view.loc (c : Thread nD τ) ↦[(slot 1 17).view.set]{fullShare} f)
    ∗ (∃ f, (chunk outM (fwd c 15) 0).view.loc (c : Thread nD τ) ↦[(chunk outM (fwd c 15) 0).view.set]{fullShare} f)
    ∗ (∃ f, (chunk outM (fwd c 15) 1).view.loc (c : Thread nD τ) ↦[(chunk outM (fwd c 15) 1).view.set]{fullShare} f)
    ∗ reached ER (dmaCell c rsR 0 17) 0 ∗ reached ER (dmaCell c rsR 1 17) 0
    ∗ reached ER (dmaCell c agR 0 17) 0 ∗ reached ER (dmaCell c agR 1 17) 0) := pay_bar_payer m c 15
theorem pay_bar_payer_16 (c : Dev nD) : (sched (F := F) m).payload (barCell (fwd c 16)) 0 (16 : Fin 32) =
    iprop((∃ f, (slot 0 16).view.loc (c : Thread nD τ) ↦[(slot 0 16).view.set]{fullShare} f)
    ∗ (∃ f, (slot 1 16).view.loc (c : Thread nD τ) ↦[(slot 1 16).view.set]{fullShare} f)
    ∗ (∃ f, (chunk outM (fwd c 16) 0).view.loc (c : Thread nD τ) ↦[(chunk outM (fwd c 16) 0).view.set]{fullShare} f)
    ∗ (∃ f, (chunk outM (fwd c 16) 1).view.loc (c : Thread nD τ) ↦[(chunk outM (fwd c 16) 1).view.set]{fullShare} f)
    ∗ reached ER (dmaCell c rsR 0 16) 0 ∗ reached ER (dmaCell c rsR 1 16) 0
    ∗ reached ER (dmaCell c agR 0 16) 0 ∗ reached ER (dmaCell c agR 1 16) 0) := pay_bar_payer m c 16
theorem pay_bar_payer_17 (c : Dev nD) : (sched (F := F) m).payload (barCell (fwd c 17)) 0 (17 : Fin 32) =
    iprop((∃ f, (slot 0 15).view.loc (c : Thread nD τ) ↦[(slot 0 15).view.set]{fullShare} f)
    ∗ (∃ f, (slot 1 15).view.loc (c : Thread nD τ) ↦[(slot 1 15).view.set]{fullShare} f)
    ∗ (∃ f, (chunk outM (fwd c 17) 0).view.loc (c : Thread nD τ) ↦[(chunk outM (fwd c 17) 0).view.set]{fullShare} f)
    ∗ (∃ f, (chunk outM (fwd c 17) 1).view.loc (c : Thread nD τ) ↦[(chunk outM (fwd c 17) 1).view.set]{fullShare} f)
    ∗ reached ER (dmaCell c rsR 0 15) 0 ∗ reached ER (dmaCell c rsR 1 15) 0
    ∗ reached ER (dmaCell c agR 0 15) 0 ∗ reached ER (dmaCell c agR 1 15) 0) := pay_bar_payer m c 17
theorem pay_bar_payer_18 (c : Dev nD) : (sched (F := F) m).payload (barCell (fwd c 18)) 0 (18 : Fin 32) =
    iprop((∃ f, (slot 0 14).view.loc (c : Thread nD τ) ↦[(slot 0 14).view.set]{fullShare} f)
    ∗ (∃ f, (slot 1 14).view.loc (c : Thread nD τ) ↦[(slot 1 14).view.set]{fullShare} f)
    ∗ (∃ f, (chunk outM (fwd c 18) 0).view.loc (c : Thread nD τ) ↦[(chunk outM (fwd c 18) 0).view.set]{fullShare} f)
    ∗ (∃ f, (chunk outM (fwd c 18) 1).view.loc (c : Thread nD τ) ↦[(chunk outM (fwd c 18) 1).view.set]{fullShare} f)
    ∗ reached ER (dmaCell c rsR 0 14) 0 ∗ reached ER (dmaCell c rsR 1 14) 0
    ∗ reached ER (dmaCell c agR 0 14) 0 ∗ reached ER (dmaCell c agR 1 14) 0) := pay_bar_payer m c 18
theorem pay_bar_payer_19 (c : Dev nD) : (sched (F := F) m).payload (barCell (fwd c 19)) 0 (19 : Fin 32) =
    iprop((∃ f, (slot 0 13).view.loc (c : Thread nD τ) ↦[(slot 0 13).view.set]{fullShare} f)
    ∗ (∃ f, (slot 1 13).view.loc (c : Thread nD τ) ↦[(slot 1 13).view.set]{fullShare} f)
    ∗ (∃ f, (chunk outM (fwd c 19) 0).view.loc (c : Thread nD τ) ↦[(chunk outM (fwd c 19) 0).view.set]{fullShare} f)
    ∗ (∃ f, (chunk outM (fwd c 19) 1).view.loc (c : Thread nD τ) ↦[(chunk outM (fwd c 19) 1).view.set]{fullShare} f)
    ∗ reached ER (dmaCell c rsR 0 13) 0 ∗ reached ER (dmaCell c rsR 1 13) 0
    ∗ reached ER (dmaCell c agR 0 13) 0 ∗ reached ER (dmaCell c agR 1 13) 0) := pay_bar_payer m c 19
theorem pay_bar_payer_20 (c : Dev nD) : (sched (F := F) m).payload (barCell (fwd c 20)) 0 (20 : Fin 32) =
    iprop((∃ f, (slot 0 12).view.loc (c : Thread nD τ) ↦[(slot 0 12).view.set]{fullShare} f)
    ∗ (∃ f, (slot 1 12).view.loc (c : Thread nD τ) ↦[(slot 1 12).view.set]{fullShare} f)
    ∗ (∃ f, (chunk outM (fwd c 20) 0).view.loc (c : Thread nD τ) ↦[(chunk outM (fwd c 20) 0).view.set]{fullShare} f)
    ∗ (∃ f, (chunk outM (fwd c 20) 1).view.loc (c : Thread nD τ) ↦[(chunk outM (fwd c 20) 1).view.set]{fullShare} f)
    ∗ reached ER (dmaCell c rsR 0 12) 0 ∗ reached ER (dmaCell c rsR 1 12) 0
    ∗ reached ER (dmaCell c agR 0 12) 0 ∗ reached ER (dmaCell c agR 1 12) 0) := pay_bar_payer m c 20
theorem pay_bar_payer_21 (c : Dev nD) : (sched (F := F) m).payload (barCell (fwd c 21)) 0 (21 : Fin 32) =
    iprop((∃ f, (slot 0 11).view.loc (c : Thread nD τ) ↦[(slot 0 11).view.set]{fullShare} f)
    ∗ (∃ f, (slot 1 11).view.loc (c : Thread nD τ) ↦[(slot 1 11).view.set]{fullShare} f)
    ∗ (∃ f, (chunk outM (fwd c 21) 0).view.loc (c : Thread nD τ) ↦[(chunk outM (fwd c 21) 0).view.set]{fullShare} f)
    ∗ (∃ f, (chunk outM (fwd c 21) 1).view.loc (c : Thread nD τ) ↦[(chunk outM (fwd c 21) 1).view.set]{fullShare} f)
    ∗ reached ER (dmaCell c rsR 0 11) 0 ∗ reached ER (dmaCell c rsR 1 11) 0
    ∗ reached ER (dmaCell c agR 0 11) 0 ∗ reached ER (dmaCell c agR 1 11) 0) := pay_bar_payer m c 21
theorem pay_bar_payer_22 (c : Dev nD) : (sched (F := F) m).payload (barCell (fwd c 22)) 0 (22 : Fin 32) =
    iprop((∃ f, (slot 0 10).view.loc (c : Thread nD τ) ↦[(slot 0 10).view.set]{fullShare} f)
    ∗ (∃ f, (slot 1 10).view.loc (c : Thread nD τ) ↦[(slot 1 10).view.set]{fullShare} f)
    ∗ (∃ f, (chunk outM (fwd c 22) 0).view.loc (c : Thread nD τ) ↦[(chunk outM (fwd c 22) 0).view.set]{fullShare} f)
    ∗ (∃ f, (chunk outM (fwd c 22) 1).view.loc (c : Thread nD τ) ↦[(chunk outM (fwd c 22) 1).view.set]{fullShare} f)
    ∗ reached ER (dmaCell c rsR 0 10) 0 ∗ reached ER (dmaCell c rsR 1 10) 0
    ∗ reached ER (dmaCell c agR 0 10) 0 ∗ reached ER (dmaCell c agR 1 10) 0) := pay_bar_payer m c 22
theorem pay_bar_payer_23 (c : Dev nD) : (sched (F := F) m).payload (barCell (fwd c 23)) 0 (23 : Fin 32) =
    iprop((∃ f, (slot 0 9).view.loc (c : Thread nD τ) ↦[(slot 0 9).view.set]{fullShare} f)
    ∗ (∃ f, (slot 1 9).view.loc (c : Thread nD τ) ↦[(slot 1 9).view.set]{fullShare} f)
    ∗ (∃ f, (chunk outM (fwd c 23) 0).view.loc (c : Thread nD τ) ↦[(chunk outM (fwd c 23) 0).view.set]{fullShare} f)
    ∗ (∃ f, (chunk outM (fwd c 23) 1).view.loc (c : Thread nD τ) ↦[(chunk outM (fwd c 23) 1).view.set]{fullShare} f)
    ∗ reached ER (dmaCell c rsR 0 9) 0 ∗ reached ER (dmaCell c rsR 1 9) 0
    ∗ reached ER (dmaCell c agR 0 9) 0 ∗ reached ER (dmaCell c agR 1 9) 0) := pay_bar_payer m c 23
theorem pay_bar_payer_24 (c : Dev nD) : (sched (F := F) m).payload (barCell (fwd c 24)) 0 (24 : Fin 32) =
    iprop((∃ f, (slot 0 8).view.loc (c : Thread nD τ) ↦[(slot 0 8).view.set]{fullShare} f)
    ∗ (∃ f, (slot 1 8).view.loc (c : Thread nD τ) ↦[(slot 1 8).view.set]{fullShare} f)
    ∗ (∃ f, (chunk outM (fwd c 24) 0).view.loc (c : Thread nD τ) ↦[(chunk outM (fwd c 24) 0).view.set]{fullShare} f)
    ∗ (∃ f, (chunk outM (fwd c 24) 1).view.loc (c : Thread nD τ) ↦[(chunk outM (fwd c 24) 1).view.set]{fullShare} f)
    ∗ reached ER (dmaCell c rsR 0 8) 0 ∗ reached ER (dmaCell c rsR 1 8) 0
    ∗ reached ER (dmaCell c agR 0 8) 0 ∗ reached ER (dmaCell c agR 1 8) 0) := pay_bar_payer m c 24
theorem pay_bar_payer_25 (c : Dev nD) : (sched (F := F) m).payload (barCell (fwd c 25)) 0 (25 : Fin 32) =
    iprop((∃ f, (slot 0 7).view.loc (c : Thread nD τ) ↦[(slot 0 7).view.set]{fullShare} f)
    ∗ (∃ f, (slot 1 7).view.loc (c : Thread nD τ) ↦[(slot 1 7).view.set]{fullShare} f)
    ∗ (∃ f, (chunk outM (fwd c 25) 0).view.loc (c : Thread nD τ) ↦[(chunk outM (fwd c 25) 0).view.set]{fullShare} f)
    ∗ (∃ f, (chunk outM (fwd c 25) 1).view.loc (c : Thread nD τ) ↦[(chunk outM (fwd c 25) 1).view.set]{fullShare} f)
    ∗ reached ER (dmaCell c rsR 0 7) 0 ∗ reached ER (dmaCell c rsR 1 7) 0
    ∗ reached ER (dmaCell c agR 0 7) 0 ∗ reached ER (dmaCell c agR 1 7) 0) := pay_bar_payer m c 25
theorem pay_bar_payer_26 (c : Dev nD) : (sched (F := F) m).payload (barCell (fwd c 26)) 0 (26 : Fin 32) =
    iprop((∃ f, (slot 0 6).view.loc (c : Thread nD τ) ↦[(slot 0 6).view.set]{fullShare} f)
    ∗ (∃ f, (slot 1 6).view.loc (c : Thread nD τ) ↦[(slot 1 6).view.set]{fullShare} f)
    ∗ (∃ f, (chunk outM (fwd c 26) 0).view.loc (c : Thread nD τ) ↦[(chunk outM (fwd c 26) 0).view.set]{fullShare} f)
    ∗ (∃ f, (chunk outM (fwd c 26) 1).view.loc (c : Thread nD τ) ↦[(chunk outM (fwd c 26) 1).view.set]{fullShare} f)
    ∗ reached ER (dmaCell c rsR 0 6) 0 ∗ reached ER (dmaCell c rsR 1 6) 0
    ∗ reached ER (dmaCell c agR 0 6) 0 ∗ reached ER (dmaCell c agR 1 6) 0) := pay_bar_payer m c 26
theorem pay_bar_payer_27 (c : Dev nD) : (sched (F := F) m).payload (barCell (fwd c 27)) 0 (27 : Fin 32) =
    iprop((∃ f, (slot 0 5).view.loc (c : Thread nD τ) ↦[(slot 0 5).view.set]{fullShare} f)
    ∗ (∃ f, (slot 1 5).view.loc (c : Thread nD τ) ↦[(slot 1 5).view.set]{fullShare} f)
    ∗ (∃ f, (chunk outM (fwd c 27) 0).view.loc (c : Thread nD τ) ↦[(chunk outM (fwd c 27) 0).view.set]{fullShare} f)
    ∗ (∃ f, (chunk outM (fwd c 27) 1).view.loc (c : Thread nD τ) ↦[(chunk outM (fwd c 27) 1).view.set]{fullShare} f)
    ∗ reached ER (dmaCell c rsR 0 5) 0 ∗ reached ER (dmaCell c rsR 1 5) 0
    ∗ reached ER (dmaCell c agR 0 5) 0 ∗ reached ER (dmaCell c agR 1 5) 0) := pay_bar_payer m c 27
theorem pay_bar_payer_28 (c : Dev nD) : (sched (F := F) m).payload (barCell (fwd c 28)) 0 (28 : Fin 32) =
    iprop((∃ f, (slot 0 4).view.loc (c : Thread nD τ) ↦[(slot 0 4).view.set]{fullShare} f)
    ∗ (∃ f, (slot 1 4).view.loc (c : Thread nD τ) ↦[(slot 1 4).view.set]{fullShare} f)
    ∗ (∃ f, (chunk outM (fwd c 28) 0).view.loc (c : Thread nD τ) ↦[(chunk outM (fwd c 28) 0).view.set]{fullShare} f)
    ∗ (∃ f, (chunk outM (fwd c 28) 1).view.loc (c : Thread nD τ) ↦[(chunk outM (fwd c 28) 1).view.set]{fullShare} f)
    ∗ reached ER (dmaCell c rsR 0 4) 0 ∗ reached ER (dmaCell c rsR 1 4) 0
    ∗ reached ER (dmaCell c agR 0 4) 0 ∗ reached ER (dmaCell c agR 1 4) 0) := pay_bar_payer m c 28
theorem pay_bar_payer_29 (c : Dev nD) : (sched (F := F) m).payload (barCell (fwd c 29)) 0 (29 : Fin 32) =
    iprop((∃ f, (slot 0 3).view.loc (c : Thread nD τ) ↦[(slot 0 3).view.set]{fullShare} f)
    ∗ (∃ f, (slot 1 3).view.loc (c : Thread nD τ) ↦[(slot 1 3).view.set]{fullShare} f)
    ∗ (∃ f, (chunk outM (fwd c 29) 0).view.loc (c : Thread nD τ) ↦[(chunk outM (fwd c 29) 0).view.set]{fullShare} f)
    ∗ (∃ f, (chunk outM (fwd c 29) 1).view.loc (c : Thread nD τ) ↦[(chunk outM (fwd c 29) 1).view.set]{fullShare} f)
    ∗ reached ER (dmaCell c rsR 0 3) 0 ∗ reached ER (dmaCell c rsR 1 3) 0
    ∗ reached ER (dmaCell c agR 0 3) 0 ∗ reached ER (dmaCell c agR 1 3) 0) := pay_bar_payer m c 29
theorem pay_bar_payer_30 (c : Dev nD) : (sched (F := F) m).payload (barCell (fwd c 30)) 0 (30 : Fin 32) =
    iprop((∃ f, (slot 0 2).view.loc (c : Thread nD τ) ↦[(slot 0 2).view.set]{fullShare} f)
    ∗ (∃ f, (slot 1 2).view.loc (c : Thread nD τ) ↦[(slot 1 2).view.set]{fullShare} f)
    ∗ (∃ f, (chunk outM (fwd c 30) 0).view.loc (c : Thread nD τ) ↦[(chunk outM (fwd c 30) 0).view.set]{fullShare} f)
    ∗ (∃ f, (chunk outM (fwd c 30) 1).view.loc (c : Thread nD τ) ↦[(chunk outM (fwd c 30) 1).view.set]{fullShare} f)
    ∗ reached ER (dmaCell c rsR 0 2) 0 ∗ reached ER (dmaCell c rsR 1 2) 0
    ∗ reached ER (dmaCell c agR 0 2) 0 ∗ reached ER (dmaCell c agR 1 2) 0) := pay_bar_payer m c 30
theorem pay_bar_payer_31 (c : Dev nD) : (sched (F := F) m).payload (barCell (fwd c 31)) 0 (31 : Fin 32) =
    iprop((∃ f, (slot 0 1).view.loc (c : Thread nD τ) ↦[(slot 0 1).view.set]{fullShare} f)
    ∗ (∃ f, (slot 1 1).view.loc (c : Thread nD τ) ↦[(slot 1 1).view.set]{fullShare} f)
    ∗ (∃ f, (chunk outM (fwd c 31) 0).view.loc (c : Thread nD τ) ↦[(chunk outM (fwd c 31) 0).view.set]{fullShare} f)
    ∗ (∃ f, (chunk outM (fwd c 31) 1).view.loc (c : Thread nD τ) ↦[(chunk outM (fwd c 31) 1).view.set]{fullShare} f)
    ∗ reached ER (dmaCell c rsR 0 1) 0 ∗ reached ER (dmaCell c rsR 1 1) 0
    ∗ reached ER (dmaCell c agR 0 1) 0 ∗ reached ER (dmaCell c agR 1 1) 0) := pay_bar_payer m c 31

end Cert.KernelIdeal.AllReduce

end
-- ==== Proof.BodySignals.lean ====
/-
  The entry handshake: the device's 31 signals to its peers' barrier cells, each handing the peer the slot and the gather rows that peer will fill.
  One statement per printed part of the kernel body, over the resources that part touches and nothing else.
-/
import proofs.«900438_g7700000000000439_dist_gemm_ar_m1024_k1024_n1024_f32_gelu_v7x_i32_1_alg».proof.Proof.BodyTables
noncomputable section
namespace Cert.KernelIdeal.AllReduce
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma duties_bar amount_bar pay_bar_payer_1 pay_bar_payer_2 pay_bar_payer_3 pay_bar_payer_4 pay_bar_payer_5 in
set_option maxHeartbeats 4000000 in
theorem part1_spec (c : Dev nD)  (fo : Buf (Elt F) ((c : Thread nD τ).loc cc0_scratch1)) (fb : Buf (Elt F) ((c : Thread nD τ).loc cc0_scratch2)) (O : CellTallies nD τ sig Unit) (W : Waits sig Unit) (Q : (Σ' (d0 : Dev nD) (v2 : BitVec 32) (v3 : Sems sig S_) (v24 : BitVec 32), BitVec 32) → sProp 𝕄) :
    iprop((cellInv ER (sched m) (K (barCell (fwd c 1))) (barCell (fwd c 1)) ∗ dutyTok ER (barCell (fwd c 1)) 0 (1 : Fin 32) ∗ reached ER (barCell (fwd c 1)) 0
        ∗ reached ER (dmaCell c rsR 0 31) 0 ∗ reached ER (dmaCell c rsR 1 31) 0 ∗ reached ER (dmaCell c agR 0 31) 0 ∗ reached ER (dmaCell c agR 1 31) 0)
      ∗ ((slot 0 31).view.loc (c : Thread nD τ) ↦[(slot 0 31).view.set]{fullShare} fb)
      ∗ ((slot 1 31).view.loc (c : Thread nD τ) ↦[(slot 1 31).view.set]{fullShare} fb)
      ∗ ((chunk outM (fwd c 1) 0).view.loc (c : Thread nD τ) ↦[(chunk outM (fwd c 1) 0).view.set]{fullShare} fo)
      ∗ ((chunk outM (fwd c 1) 1).view.loc (c : Thread nD τ) ↦[(chunk outM (fwd c 1) 1).view.set]{fullShare} fo)
      ∗ (cellInv ER (sched m) (K (barCell (fwd c 2))) (barCell (fwd c 2)) ∗ dutyTok ER (barCell (fwd c 2)) 0 (2 : Fin 32) ∗ reached ER (barCell (fwd c 2)) 0
        ∗ reached ER (dmaCell c rsR 0 30) 0 ∗ reached ER (dmaCell c rsR 1 30) 0 ∗ reached ER (dmaCell c agR 0 30) 0 ∗ reached ER (dmaCell c agR 1 30) 0)
      ∗ ((slot 0 30).view.loc (c : Thread nD τ) ↦[(slot 0 30).view.set]{fullShare} fb)
      ∗ ((slot 1 30).view.loc (c : Thread nD τ) ↦[(slot 1 30).view.set]{fullShare} fb)
      ∗ ((chunk outM (fwd c 2) 0).view.loc (c : Thread nD τ) ↦[(chunk outM (fwd c 2) 0).view.set]{fullShare} fo)
      ∗ ((chunk outM (fwd c 2) 1).view.loc (c : Thread nD τ) ↦[(chunk outM (fwd c 2) 1).view.set]{fullShare} fo)
      ∗ (cellInv ER (sched m) (K (barCell (fwd c 3))) (barCell (fwd c 3)) ∗ dutyTok ER (barCell (fwd c 3)) 0 (3 : Fin 32) ∗ reached ER (barCell (fwd c 3)) 0
        ∗ reached ER (dmaCell c rsR 0 29) 0 ∗ reached ER (dmaCell c rsR 1 29) 0 ∗ reached ER (dmaCell c agR 0 29) 0 ∗ reached ER (dmaCell c agR 1 29) 0)
      ∗ ((slot 0 29).view.loc (c : Thread nD τ) ↦[(slot 0 29).view.set]{fullShare} fb)
      ∗ ((slot 1 29).view.loc (c : Thread nD τ) ↦[(slot 1 29).view.set]{fullShare} fb)
      ∗ ((chunk outM (fwd c 3) 0).view.loc (c : Thread nD τ) ↦[(chunk outM (fwd c 3) 0).view.set]{fullShare} fo)
      ∗ ((chunk outM (fwd c 3) 1).view.loc (c : Thread nD τ) ↦[(chunk outM (fwd c 3) 1).view.set]{fullShare} fo)
      ∗ (cellInv ER (sched m) (K (barCell (fwd c 4))) (barCell (fwd c 4)) ∗ dutyTok ER (barCell (fwd c 4)) 0 (4 : Fin 32) ∗ reached ER (barCell (fwd c 4)) 0
        ∗ reached ER (dmaCell c rsR 0 28) 0 ∗ reached ER (dmaCell c rsR 1 28) 0 ∗ reached ER (dmaCell c agR 0 28) 0 ∗ reached ER (dmaCell c agR 1 28) 0)
      ∗ ((slot 0 28).view.loc (c : Thread nD τ) ↦[(slot 0 28).view.set]{fullShare} fb)
      ∗ ((slot 1 28).view.loc (c : Thread nD τ) ↦[(slot 1 28).view.set]{fullShare} fb)
      ∗ ((chunk outM (fwd c 4) 0).view.loc (c : Thread nD τ) ↦[(chunk outM (fwd c 4) 0).view.set]{fullShare} fo)
      ∗ ((chunk outM (fwd c 4) 1).view.loc (c : Thread nD τ) ↦[(chunk outM (fwd c 4) 1).view.set]{fullShare} fo)
      ∗ (cellInv ER (sched m) (K (barCell (fwd c 5))) (barCell (fwd c 5)) ∗ dutyTok ER (barCell (fwd c 5)) 0 (5 : Fin 32) ∗ reached ER (barCell (fwd c 5)) 0
        ∗ reached ER (dmaCell c rsR 0 27) 0 ∗ reached ER (dmaCell c rsR 1 27) 0 ∗ reached ER (dmaCell c agR 0 27) 0 ∗ reached ER (dmaCell c agR 1 27) 0)
      ∗ ((slot 0 27).view.loc (c : Thread nD τ) ↦[(slot 0 27).view.set]{fullShare} fb)
      ∗ ((slot 1 27).view.loc (c : Thread nD τ) ↦[(slot 1 27).view.set]{fullShare} fb)
      ∗ ((chunk outM (fwd c 5) 0).view.loc (c : Thread nD τ) ↦[(chunk outM (fwd c 5) 0).view.set]{fullShare} fo)
      ∗ ((chunk outM (fwd c 5) 1).view.loc (c : Thread nD τ) ↦[(chunk outM (fwd c 5) 1).view.set]{fullShare} fo)
      ∗ owes (c : Thread nD τ) (O + tallyAt (barCell (fwd c 5)) () 1 + tallyAt (barCell (fwd c 4)) () 1 + tallyAt (barCell (fwd c 3)) () 1 + tallyAt (barCell (fwd c 2)) () 1 + tallyAt (barCell (fwd c 1)) () 1) W
      ∗ (∀ (v2 v24 x : BitVec 32), (owes (c : Thread nD τ) (O) (W)) -∗ Q ⟨c, v2, SemArray.scalar (sig.barrier 0 rfl), v24, x⟩))
      ⊢ wp frame (wpE (defs₀ (F := F)) 𝒱₀ c none) Set.univ (k0_part1 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q := by
  iintro ⟨⟨#IB1, TB1, #RB1, #Rr0_1, #Rr1_1, #Ra0_1, #Ra1_1⟩, S0_1, S1_1, Og0_1, Og1_1, ⟨#IB2, TB2, #RB2, #Rr0_2, #Rr1_2, #Ra0_2, #Ra1_2⟩, S0_2, S1_2, Og0_2, Og1_2, ⟨#IB3, TB3, #RB3, #Rr0_3, #Rr1_3, #Ra0_3, #Ra1_3⟩, S0_3, S1_3, Og0_3, Og1_3, ⟨#IB4, TB4, #RB4, #Rr0_4, #Rr1_4, #Ra0_4, #Ra1_4⟩, S0_4, S1_4, Og0_4, Og1_4, ⟨#IB5, TB5, #RB5, #Rr0_5, #Rr1_5, #Ra0_5, #Ra1_5⟩, S0_5, S1_5, Og0_5, Og1_5, HO, Hk⟩
  sl_exec_parts
  sl_step
  iapply Hk

  iexact HO

attribute [local sl_rounds] duties_dma amount_dma expect_dma duties_bar amount_bar pay_bar_payer_6 pay_bar_payer_7 pay_bar_payer_8 pay_bar_payer_9 pay_bar_payer_10 pay_bar_payer_11 in
set_option maxHeartbeats 4000000 in
theorem part2_spec (c : Dev nD) (v2 : BitVec 32) (v24 : BitVec 32) (c32_i32_20 : BitVec 32) (fo : Buf (Elt F) ((c : Thread nD τ).loc cc0_scratch1)) (fb : Buf (Elt F) ((c : Thread nD τ).loc cc0_scratch2)) (O : CellTallies nD τ sig Unit) (W : Waits sig Unit) (Q : (Σ' (v48 : BitVec 32), BitVec 32) → sProp 𝕄) :
    iprop((cellInv ER (sched m) (K (barCell (fwd c 6))) (barCell (fwd c 6)) ∗ dutyTok ER (barCell (fwd c 6)) 0 (6 : Fin 32) ∗ reached ER (barCell (fwd c 6)) 0
        ∗ reached ER (dmaCell c rsR 0 26) 0 ∗ reached ER (dmaCell c rsR 1 26) 0 ∗ reached ER (dmaCell c agR 0 26) 0 ∗ reached ER (dmaCell c agR 1 26) 0)
      ∗ ((slot 0 26).view.loc (c : Thread nD τ) ↦[(slot 0 26).view.set]{fullShare} fb)
      ∗ ((slot 1 26).view.loc (c : Thread nD τ) ↦[(slot 1 26).view.set]{fullShare} fb)
      ∗ ((chunk outM (fwd c 6) 0).view.loc (c : Thread nD τ) ↦[(chunk outM (fwd c 6) 0).view.set]{fullShare} fo)
      ∗ ((chunk outM (fwd c 6) 1).view.loc (c : Thread nD τ) ↦[(chunk outM (fwd c 6) 1).view.set]{fullShare} fo)
      ∗ (cellInv ER (sched m) (K (barCell (fwd c 7))) (barCell (fwd c 7)) ∗ dutyTok ER (barCell (fwd c 7)) 0 (7 : Fin 32) ∗ reached ER (barCell (fwd c 7)) 0
        ∗ reached ER (dmaCell c rsR 0 25) 0 ∗ reached ER (dmaCell c rsR 1 25) 0 ∗ reached ER (dmaCell c agR 0 25) 0 ∗ reached ER (dmaCell c agR 1 25) 0)
      ∗ ((slot 0 25).view.loc (c : Thread nD τ) ↦[(slot 0 25).view.set]{fullShare} fb)
      ∗ ((slot 1 25).view.loc (c : Thread nD τ) ↦[(slot 1 25).view.set]{fullShare} fb)
      ∗ ((chunk outM (fwd c 7) 0).view.loc (c : Thread nD τ) ↦[(chunk outM (fwd c 7) 0).view.set]{fullShare} fo)
      ∗ ((chunk outM (fwd c 7) 1).view.loc (c : Thread nD τ) ↦[(chunk outM (fwd c 7) 1).view.set]{fullShare} fo)
      ∗ (cellInv ER (sched m) (K (barCell (fwd c 8))) (barCell (fwd c 8)) ∗ dutyTok ER (barCell (fwd c 8)) 0 (8 : Fin 32) ∗ reached ER (barCell (fwd c 8)) 0
        ∗ reached ER (dmaCell c rsR 0 24) 0 ∗ reached ER (dmaCell c rsR 1 24) 0 ∗ reached ER (dmaCell c agR 0 24) 0 ∗ reached ER (dmaCell c agR 1 24) 0)
      ∗ ((slot 0 24).view.loc (c : Thread nD τ) ↦[(slot 0 24).view.set]{fullShare} fb)
      ∗ ((slot 1 24).view.loc (c : Thread nD τ) ↦[(slot 1 24).view.set]{fullShare} fb)
      ∗ ((chunk outM (fwd c 8) 0).view.loc (c : Thread nD τ) ↦[(chunk outM (fwd c 8) 0).view.set]{fullShare} fo)
      ∗ ((chunk outM (fwd c 8) 1).view.loc (c : Thread nD τ) ↦[(chunk outM (fwd c 8) 1).view.set]{fullShare} fo)
      ∗ (cellInv ER (sched m) (K (barCell (fwd c 9))) (barCell (fwd c 9)) ∗ dutyTok ER (barCell (fwd c 9)) 0 (9 : Fin 32) ∗ reached ER (barCell (fwd c 9)) 0
        ∗ reached ER (dmaCell c rsR 0 23) 0 ∗ reached ER (dmaCell c rsR 1 23) 0 ∗ reached ER (dmaCell c agR 0 23) 0 ∗ reached ER (dmaCell c agR 1 23) 0)
      ∗ ((slot 0 23).view.loc (c : Thread nD τ) ↦[(slot 0 23).view.set]{fullShare} fb)
      ∗ ((slot 1 23).view.loc (c : Thread nD τ) ↦[(slot 1 23).view.set]{fullShare} fb)
      ∗ ((chunk outM (fwd c 9) 0).view.loc (c : Thread nD τ) ↦[(chunk outM (fwd c 9) 0).view.set]{fullShare} fo)
      ∗ ((chunk outM (fwd c 9) 1).view.loc (c : Thread nD τ) ↦[(chunk outM (fwd c 9) 1).view.set]{fullShare} fo)
      ∗ (cellInv ER (sched m) (K (barCell (fwd c 10))) (barCell (fwd c 10)) ∗ dutyTok ER (barCell (fwd c 10)) 0 (10 : Fin 32) ∗ reached ER (barCell (fwd c 10)) 0
        ∗ reached ER (dmaCell c rsR 0 22) 0 ∗ reached ER (dmaCell c rsR 1 22) 0 ∗ reached ER (dmaCell c agR 0 22) 0 ∗ reached ER (dmaCell c agR 1 22) 0)
      ∗ ((slot 0 22).view.loc (c : Thread nD τ) ↦[(slot 0 22).view.set]{fullShare} fb)
      ∗ ((slot 1 22).view.loc (c : Thread nD τ) ↦[(slot 1 22).view.set]{fullShare} fb)
      ∗ ((chunk outM (fwd c 10) 0).view.loc (c : Thread nD τ) ↦[(chunk outM (fwd c 10) 0).view.set]{fullShare} fo)
      ∗ ((chunk outM (fwd c 10) 1).view.loc (c : Thread nD τ) ↦[(chunk outM (fwd c 10) 1).view.set]{fullShare} fo)
      ∗ (cellInv ER (sched m) (K (barCell (fwd c 11))) (barCell (fwd c 11)) ∗ dutyTok ER (barCell (fwd c 11)) 0 (11 : Fin 32) ∗ reached ER (barCell (fwd c 11)) 0
        ∗ reached ER (dmaCell c rsR 0 21) 0 ∗ reached ER (dmaCell c rsR 1 21) 0 ∗ reached ER (dmaCell c agR 0 21) 0 ∗ reached ER (dmaCell c agR 1 21) 0)
      ∗ ((slot 0 21).view.loc (c : Thread nD τ) ↦[(slot 0 21).view.set]{fullShare} fb)
      ∗ ((slot 1 21).view.loc (c : Thread nD τ) ↦[(slot 1 21).view.set]{fullShare} fb)
      ∗ ((chunk outM (fwd c 11) 0).view.loc (c : Thread nD τ) ↦[(chunk outM (fwd c 11) 0).view.set]{fullShare} fo)
      ∗ ((chunk outM (fwd c 11) 1).view.loc (c : Thread nD τ) ↦[(chunk outM (fwd c 11) 1).view.set]{fullShare} fo)
      ∗ owes (c : Thread nD τ) (O + tallyAt (barCell (fwd c 11)) () 1 + tallyAt (barCell (fwd c 10)) () 1 + tallyAt (barCell (fwd c 9)) () 1 + tallyAt (barCell (fwd c 8)) () 1 + tallyAt (barCell (fwd c 7)) () 1 + tallyAt (barCell (fwd c 6)) () 1) W
      ∗ (∀ r, (owes (c : Thread nD τ) (O) (W)) -∗ Q r))
      ⊢ wp frame (wpE (defs₀ (F := F)) 𝒱₀ c none) Set.univ (k0_part2 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v24 c32_i32_20) Q := by
  iintro ⟨⟨#IB6, TB6, #RB6, #Rr0_6, #Rr1_6, #Ra0_6, #Ra1_6⟩, S0_6, S1_6, Og0_6, Og1_6, ⟨#IB7, TB7, #RB7, #Rr0_7, #Rr1_7, #Ra0_7, #Ra1_7⟩, S0_7, S1_7, Og0_7, Og1_7, ⟨#IB8, TB8, #RB8, #Rr0_8, #Rr1_8, #Ra0_8, #Ra1_8⟩, S0_8, S1_8, Og0_8, Og1_8, ⟨#IB9, TB9, #RB9, #Rr0_9, #Rr1_9, #Ra0_9, #Ra1_9⟩, S0_9, S1_9, Og0_9, Og1_9, ⟨#IB10, TB10, #RB10, #Rr0_10, #Rr1_10, #Ra0_10, #Ra1_10⟩, S0_10, S1_10, Og0_10, Og1_10, ⟨#IB11, TB11, #RB11, #Rr0_11, #Rr1_11, #Ra0_11, #Ra1_11⟩, S0_11, S1_11, Og0_11, Og1_11, HO, Hk⟩
  sl_exec_parts
  sl_step
  iapply Hk

  iexact HO

attribute [local sl_rounds] duties_dma amount_dma expect_dma duties_bar amount_bar pay_bar_payer_12 pay_bar_payer_13 pay_bar_payer_14 pay_bar_payer_15 pay_bar_payer_16 pay_bar_payer_17 in
set_option maxHeartbeats 4000000 in
theorem part3_spec (c : Dev nD) (v2 : BitVec 32) (v48 : BitVec 32) (c32_i32_44 : BitVec 32) (fo : Buf (Elt F) ((c : Thread nD τ).loc cc0_scratch1)) (fb : Buf (Elt F) ((c : Thread nD τ).loc cc0_scratch2)) (O : CellTallies nD τ sig Unit) (W : Waits sig Unit) (Q : (Σ' (v72 : BitVec 32), BitVec 32) → sProp 𝕄) :
    iprop((cellInv ER (sched m) (K (barCell (fwd c 12))) (barCell (fwd c 12)) ∗ dutyTok ER (barCell (fwd c 12)) 0 (12 : Fin 32) ∗ reached ER (barCell (fwd c 12)) 0
        ∗ reached ER (dmaCell c rsR 0 20) 0 ∗ reached ER (dmaCell c rsR 1 20) 0 ∗ reached ER (dmaCell c agR 0 20) 0 ∗ reached ER (dmaCell c agR 1 20) 0)
      ∗ ((slot 0 20).view.loc (c : Thread nD τ) ↦[(slot 0 20).view.set]{fullShare} fb)
      ∗ ((slot 1 20).view.loc (c : Thread nD τ) ↦[(slot 1 20).view.set]{fullShare} fb)
      ∗ ((chunk outM (fwd c 12) 0).view.loc (c : Thread nD τ) ↦[(chunk outM (fwd c 12) 0).view.set]{fullShare} fo)
      ∗ ((chunk outM (fwd c 12) 1).view.loc (c : Thread nD τ) ↦[(chunk outM (fwd c 12) 1).view.set]{fullShare} fo)
      ∗ (cellInv ER (sched m) (K (barCell (fwd c 13))) (barCell (fwd c 13)) ∗ dutyTok ER (barCell (fwd c 13)) 0 (13 : Fin 32) ∗ reached ER (barCell (fwd c 13)) 0
        ∗ reached ER (dmaCell c rsR 0 19) 0 ∗ reached ER (dmaCell c rsR 1 19) 0 ∗ reached ER (dmaCell c agR 0 19) 0 ∗ reached ER (dmaCell c agR 1 19) 0)
      ∗ ((slot 0 19).view.loc (c : Thread nD τ) ↦[(slot 0 19).view.set]{fullShare} fb)
      ∗ ((slot 1 19).view.loc (c : Thread nD τ) ↦[(slot 1 19).view.set]{fullShare} fb)
      ∗ ((chunk outM (fwd c 13) 0).view.loc (c : Thread nD τ) ↦[(chunk outM (fwd c 13) 0).view.set]{fullShare} fo)
      ∗ ((chunk outM (fwd c 13) 1).view.loc (c : Thread nD τ) ↦[(chunk outM (fwd c 13) 1).view.set]{fullShare} fo)
      ∗ (cellInv ER (sched m) (K (barCell (fwd c 14))) (barCell (fwd c 14)) ∗ dutyTok ER (barCell (fwd c 14)) 0 (14 : Fin 32) ∗ reached ER (barCell (fwd c 14)) 0
        ∗ reached ER (dmaCell c rsR 0 18) 0 ∗ reached ER (dmaCell c rsR 1 18) 0 ∗ reached ER (dmaCell c agR 0 18) 0 ∗ reached ER (dmaCell c agR 1 18) 0)
      ∗ ((slot 0 18).view.loc (c : Thread nD τ) ↦[(slot 0 18).view.set]{fullShare} fb)
      ∗ ((slot 1 18).view.loc (c : Thread nD τ) ↦[(slot 1 18).view.set]{fullShare} fb)
      ∗ ((chunk outM (fwd c 14) 0).view.loc (c : Thread nD τ) ↦[(chunk outM (fwd c 14) 0).view.set]{fullShare} fo)
      ∗ ((chunk outM (fwd c 14) 1).view.loc (c : Thread nD τ) ↦[(chunk outM (fwd c 14) 1).view.set]{fullShare} fo)
      ∗ (cellInv ER (sched m) (K (barCell (fwd c 15))) (barCell (fwd c 15)) ∗ dutyTok ER (barCell (fwd c 15)) 0 (15 : Fin 32) ∗ reached ER (barCell (fwd c 15)) 0
        ∗ reached ER (dmaCell c rsR 0 17) 0 ∗ reached ER (dmaCell c rsR 1 17) 0 ∗ reached ER (dmaCell c agR 0 17) 0 ∗ reached ER (dmaCell c agR 1 17) 0)
      ∗ ((slot 0 17).view.loc (c : Thread nD τ) ↦[(slot 0 17).view.set]{fullShare} fb)
      ∗ ((slot 1 17).view.loc (c : Thread nD τ) ↦[(slot 1 17).view.set]{fullShare} fb)
      ∗ ((chunk outM (fwd c 15) 0).view.loc (c : Thread nD τ) ↦[(chunk outM (fwd c 15) 0).view.set]{fullShare} fo)
      ∗ ((chunk outM (fwd c 15) 1).view.loc (c : Thread nD τ) ↦[(chunk outM (fwd c 15) 1).view.set]{fullShare} fo)
      ∗ (cellInv ER (sched m) (K (barCell (fwd c 16))) (barCell (fwd c 16)) ∗ dutyTok ER (barCell (fwd c 16)) 0 (16 : Fin 32) ∗ reached ER (barCell (fwd c 16)) 0
        ∗ reached ER (dmaCell c rsR 0 16) 0 ∗ reached ER (dmaCell c rsR 1 16) 0 ∗ reached ER (dmaCell c agR 0 16) 0 ∗ reached ER (dmaCell c agR 1 16) 0)
      ∗ ((slot 0 16).view.loc (c : Thread nD τ) ↦[(slot 0 16).view.set]{fullShare} fb)
      ∗ ((slot 1 16).view.loc (c : Thread nD τ) ↦[(slot 1 16).view.set]{fullShare} fb)
      ∗ ((chunk outM (fwd c 16) 0).view.loc (c : Thread nD τ) ↦[(chunk outM (fwd c 16) 0).view.set]{fullShare} fo)
      ∗ ((chunk outM (fwd c 16) 1).view.loc (c : Thread nD τ) ↦[(chunk outM (fwd c 16) 1).view.set]{fullShare} fo)
      ∗ (cellInv ER (sched m) (K (barCell (fwd c 17))) (barCell (fwd c 17)) ∗ dutyTok ER (barCell (fwd c 17)) 0 (17 : Fin 32) ∗ reached ER (barCell (fwd c 17)) 0
        ∗ reached ER (dmaCell c rsR 0 15) 0 ∗ reached ER (dmaCell c rsR 1 15) 0 ∗ reached ER (dmaCell c agR 0 15) 0 ∗ reached ER (dmaCell c agR 1 15) 0)
      ∗ ((slot 0 15).view.loc (c : Thread nD τ) ↦[(slot 0 15).view.set]{fullShare} fb)
      ∗ ((slot 1 15).view.loc (c : Thread nD τ) ↦[(slot 1 15).view.set]{fullShare} fb)
      ∗ ((chunk outM (fwd c 17) 0).view.loc (c : Thread nD τ) ↦[(chunk outM (fwd c 17) 0).view.set]{fullShare} fo)
      ∗ ((chunk outM (fwd c 17) 1).view.loc (c : Thread nD τ) ↦[(chunk outM (fwd c 17) 1).view.set]{fullShare} fo)
      ∗ owes (c : Thread nD τ) (O + tallyAt (barCell (fwd c 17)) () 1 + tallyAt (barCell (fwd c 16)) () 1 + tallyAt (barCell (fwd c 15)) () 1 + tallyAt (barCell (fwd c 14)) () 1 + tallyAt (barCell (fwd c 13)) () 1 + tallyAt (barCell (fwd c 12)) () 1) W
      ∗ (∀ r, (owes (c : Thread nD τ) (O) (W)) -∗ Q r))
      ⊢ wp frame (wpE (defs₀ (F := F)) 𝒱₀ c none) Set.univ (k0_part3 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v48 c32_i32_44) Q := by
  iintro ⟨⟨#IB12, TB12, #RB12, #Rr0_12, #Rr1_12, #Ra0_12, #Ra1_12⟩, S0_12, S1_12, Og0_12, Og1_12, ⟨#IB13, TB13, #RB13, #Rr0_13, #Rr1_13, #Ra0_13, #Ra1_13⟩, S0_13, S1_13, Og0_13, Og1_13, ⟨#IB14, TB14, #RB14, #Rr0_14, #Rr1_14, #Ra0_14, #Ra1_14⟩, S0_14, S1_14, Og0_14, Og1_14, ⟨#IB15, TB15, #RB15, #Rr0_15, #Rr1_15, #Ra0_15, #Ra1_15⟩, S0_15, S1_15, Og0_15, Og1_15, ⟨#IB16, TB16, #RB16, #Rr0_16, #Rr1_16, #Ra0_16, #Ra1_16⟩, S0_16, S1_16, Og0_16, Og1_16, ⟨#IB17, TB17, #RB17, #Rr0_17, #Rr1_17, #Ra0_17, #Ra1_17⟩, S0_17, S1_17, Og0_17, Og1_17, HO, Hk⟩
  sl_exec_parts
  sl_step
  iapply Hk

  iexact HO

attribute [local sl_rounds] duties_dma amount_dma expect_dma duties_bar amount_bar pay_bar_payer_18 pay_bar_payer_19 pay_bar_payer_20 pay_bar_payer_21 pay_bar_payer_22 pay_bar_payer_23 in
set_option maxHeartbeats 4000000 in
theorem part4_spec (c : Dev nD) (v2 : BitVec 32) (v72 : BitVec 32) (c32_i32_68 : BitVec 32) (fo : Buf (Elt F) ((c : Thread nD τ).loc cc0_scratch1)) (fb : Buf (Elt F) ((c : Thread nD τ).loc cc0_scratch2)) (O : CellTallies nD τ sig Unit) (W : Waits sig Unit) (Q : (Σ' (v96 : BitVec 32), BitVec 32) → sProp 𝕄) :
    iprop((cellInv ER (sched m) (K (barCell (fwd c 18))) (barCell (fwd c 18)) ∗ dutyTok ER (barCell (fwd c 18)) 0 (18 : Fin 32) ∗ reached ER (barCell (fwd c 18)) 0
        ∗ reached ER (dmaCell c rsR 0 14) 0 ∗ reached ER (dmaCell c rsR 1 14) 0 ∗ reached ER (dmaCell c agR 0 14) 0 ∗ reached ER (dmaCell c agR 1 14) 0)
      ∗ ((slot 0 14).view.loc (c : Thread nD τ) ↦[(slot 0 14).view.set]{fullShare} fb)
      ∗ ((slot 1 14).view.loc (c : Thread nD τ) ↦[(slot 1 14).view.set]{fullShare} fb)
      ∗ ((chunk outM (fwd c 18) 0).view.loc (c : Thread nD τ) ↦[(chunk outM (fwd c 18) 0).view.set]{fullShare} fo)
      ∗ ((chunk outM (fwd c 18) 1).view.loc (c : Thread nD τ) ↦[(chunk outM (fwd c 18) 1).view.set]{fullShare} fo)
      ∗ (cellInv ER (sched m) (K (barCell (fwd c 19))) (barCell (fwd c 19)) ∗ dutyTok ER (barCell (fwd c 19)) 0 (19 : Fin 32) ∗ reached ER (barCell (fwd c 19)) 0
        ∗ reached ER (dmaCell c rsR 0 13) 0 ∗ reached ER (dmaCell c rsR 1 13) 0 ∗ reached ER (dmaCell c agR 0 13) 0 ∗ reached ER (dmaCell c agR 1 13) 0)
      ∗ ((slot 0 13).view.loc (c : Thread nD τ) ↦[(slot 0 13).view.set]{fullShare} fb)
      ∗ ((slot 1 13).view.loc (c : Thread nD τ) ↦[(slot 1 13).view.set]{fullShare} fb)
      ∗ ((chunk outM (fwd c 19) 0).view.loc (c : Thread nD τ) ↦[(chunk outM (fwd c 19) 0).view.set]{fullShare} fo)
      ∗ ((chunk outM (fwd c 19) 1).view.loc (c : Thread nD τ) ↦[(chunk outM (fwd c 19) 1).view.set]{fullShare} fo)
      ∗ (cellInv ER (sched m) (K (barCell (fwd c 20))) (barCell (fwd c 20)) ∗ dutyTok ER (barCell (fwd c 20)) 0 (20 : Fin 32) ∗ reached ER (barCell (fwd c 20)) 0
        ∗ reached ER (dmaCell c rsR 0 12) 0 ∗ reached ER (dmaCell c rsR 1 12) 0 ∗ reached ER (dmaCell c agR 0 12) 0 ∗ reached ER (dmaCell c agR 1 12) 0)
      ∗ ((slot 0 12).view.loc (c : Thread nD τ) ↦[(slot 0 12).view.set]{fullShare} fb)
      ∗ ((slot 1 12).view.loc (c : Thread nD τ) ↦[(slot 1 12).view.set]{fullShare} fb)
      ∗ ((chunk outM (fwd c 20) 0).view.loc (c : Thread nD τ) ↦[(chunk outM (fwd c 20) 0).view.set]{fullShare} fo)
      ∗ ((chunk outM (fwd c 20) 1).view.loc (c : Thread nD τ) ↦[(chunk outM (fwd c 20) 1).view.set]{fullShare} fo)
      ∗ (cellInv ER (sched m) (K (barCell (fwd c 21))) (barCell (fwd c 21)) ∗ dutyTok ER (barCell (fwd c 21)) 0 (21 : Fin 32) ∗ reached ER (barCell (fwd c 21)) 0
        ∗ reached ER (dmaCell c rsR 0 11) 0 ∗ reached ER (dmaCell c rsR 1 11) 0 ∗ reached ER (dmaCell c agR 0 11) 0 ∗ reached ER (dmaCell c agR 1 11) 0)
      ∗ ((slot 0 11).view.loc (c : Thread nD τ) ↦[(slot 0 11).view.set]{fullShare} fb)
      ∗ ((slot 1 11).view.loc (c : Thread nD τ) ↦[(slot 1 11).view.set]{fullShare} fb)
      ∗ ((chunk outM (fwd c 21) 0).view.loc (c : Thread nD τ) ↦[(chunk outM (fwd c 21) 0).view.set]{fullShare} fo)
      ∗ ((chunk outM (fwd c 21) 1).view.loc (c : Thread nD τ) ↦[(chunk outM (fwd c 21) 1).view.set]{fullShare} fo)
      ∗ (cellInv ER (sched m) (K (barCell (fwd c 22))) (barCell (fwd c 22)) ∗ dutyTok ER (barCell (fwd c 22)) 0 (22 : Fin 32) ∗ reached ER (barCell (fwd c 22)) 0
        ∗ reached ER (dmaCell c rsR 0 10) 0 ∗ reached ER (dmaCell c rsR 1 10) 0 ∗ reached ER (dmaCell c agR 0 10) 0 ∗ reached ER (dmaCell c agR 1 10) 0)
      ∗ ((slot 0 10).view.loc (c : Thread nD τ) ↦[(slot 0 10).view.set]{fullShare} fb)
      ∗ ((slot 1 10).view.loc (c : Thread nD τ) ↦[(slot 1 10).view.set]{fullShare} fb)
      ∗ ((chunk outM (fwd c 22) 0).view.loc (c : Thread nD τ) ↦[(chunk outM (fwd c 22) 0).view.set]{fullShare} fo)
      ∗ ((chunk outM (fwd c 22) 1).view.loc (c : Thread nD τ) ↦[(chunk outM (fwd c 22) 1).view.set]{fullShare} fo)
      ∗ (cellInv ER (sched m) (K (barCell (fwd c 23))) (barCell (fwd c 23)) ∗ dutyTok ER (barCell (fwd c 23)) 0 (23 : Fin 32) ∗ reached ER (barCell (fwd c 23)) 0
        ∗ reached ER (dmaCell c rsR 0 9) 0 ∗ reached ER (dmaCell c rsR 1 9) 0 ∗ reached ER (dmaCell c agR 0 9) 0 ∗ reached ER (dmaCell c agR 1 9) 0)
      ∗ ((slot 0 9).view.loc (c : Thread nD τ) ↦[(slot 0 9).view.set]{fullShare} fb)
      ∗ ((slot 1 9).view.loc (c : Thread nD τ) ↦[(slot 1 9).view.set]{fullShare} fb)
      ∗ ((chunk outM (fwd c 23) 0).view.loc (c : Thread nD τ) ↦[(chunk outM (fwd c 23) 0).view.set]{fullShare} fo)
      ∗ ((chunk outM (fwd c 23) 1).view.loc (c : Thread nD τ) ↦[(chunk outM (fwd c 23) 1).view.set]{fullShare} fo)
      ∗ owes (c : Thread nD τ) (O + tallyAt (barCell (fwd c 23)) () 1 + tallyAt (barCell (fwd c 22)) () 1 + tallyAt (barCell (fwd c 21)) () 1 + tallyAt (barCell (fwd c 20)) () 1 + tallyAt (barCell (fwd c 19)) () 1 + tallyAt (barCell (fwd c 18)) () 1) W
      ∗ (∀ r, (owes (c : Thread nD τ) (O) (W)) -∗ Q r))
      ⊢ wp frame (wpE (defs₀ (F := F)) 𝒱₀ c none) Set.univ (k0_part4 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v72 c32_i32_68) Q := by
  iintro ⟨⟨#IB18, TB18, #RB18, #Rr0_18, #Rr1_18, #Ra0_18, #Ra1_18⟩, S0_18, S1_18, Og0_18, Og1_18, ⟨#IB19, TB19, #RB19, #Rr0_19, #Rr1_19, #Ra0_19, #Ra1_19⟩, S0_19, S1_19, Og0_19, Og1_19, ⟨#IB20, TB20, #RB20, #Rr0_20, #Rr1_20, #Ra0_20, #Ra1_20⟩, S0_20, S1_20, Og0_20, Og1_20, ⟨#IB21, TB21, #RB21, #Rr0_21, #Rr1_21, #Ra0_21, #Ra1_21⟩, S0_21, S1_21, Og0_21, Og1_21, ⟨#IB22, TB22, #RB22, #Rr0_22, #Rr1_22, #Ra0_22, #Ra1_22⟩, S0_22, S1_22, Og0_22, Og1_22, ⟨#IB23, TB23, #RB23, #Rr0_23, #Rr1_23, #Ra0_23, #Ra1_23⟩, S0_23, S1_23, Og0_23, Og1_23, HO, Hk⟩
  sl_exec_parts
  sl_step
  iapply Hk

  iexact HO

attribute [local sl_rounds] duties_dma amount_dma expect_dma duties_bar amount_bar pay_bar_payer_24 pay_bar_payer_25 pay_bar_payer_26 pay_bar_payer_27 pay_bar_payer_28 pay_bar_payer_29 in
set_option maxHeartbeats 4000000 in
theorem part5_spec (c : Dev nD) (v2 : BitVec 32) (v96 : BitVec 32) (c32_i32_92 : BitVec 32) (fo : Buf (Elt F) ((c : Thread nD τ).loc cc0_scratch1)) (fb : Buf (Elt F) ((c : Thread nD τ).loc cc0_scratch2)) (O : CellTallies nD τ sig Unit) (W : Waits sig Unit) (Q : (Σ' (v120 : BitVec 32), BitVec 32) → sProp 𝕄) :
    iprop((cellInv ER (sched m) (K (barCell (fwd c 24))) (barCell (fwd c 24)) ∗ dutyTok ER (barCell (fwd c 24)) 0 (24 : Fin 32) ∗ reached ER (barCell (fwd c 24)) 0
        ∗ reached ER (dmaCell c rsR 0 8) 0 ∗ reached ER (dmaCell c rsR 1 8) 0 ∗ reached ER (dmaCell c agR 0 8) 0 ∗ reached ER (dmaCell c agR 1 8) 0)
      ∗ ((slot 0 8).view.loc (c : Thread nD τ) ↦[(slot 0 8).view.set]{fullShare} fb)
      ∗ ((slot 1 8).view.loc (c : Thread nD τ) ↦[(slot 1 8).view.set]{fullShare} fb)
      ∗ ((chunk outM (fwd c 24) 0).view.loc (c : Thread nD τ) ↦[(chunk outM (fwd c 24) 0).view.set]{fullShare} fo)
      ∗ ((chunk outM (fwd c 24) 1).view.loc (c : Thread nD τ) ↦[(chunk outM (fwd c 24) 1).view.set]{fullShare} fo)
      ∗ (cellInv ER (sched m) (K (barCell (fwd c 25))) (barCell (fwd c 25)) ∗ dutyTok ER (barCell (fwd c 25)) 0 (25 : Fin 32) ∗ reached ER (barCell (fwd c 25)) 0
        ∗ reached ER (dmaCell c rsR 0 7) 0 ∗ reached ER (dmaCell c rsR 1 7) 0 ∗ reached ER (dmaCell c agR 0 7) 0 ∗ reached ER (dmaCell c agR 1 7) 0)
      ∗ ((slot 0 7).view.loc (c : Thread nD τ) ↦[(slot 0 7).view.set]{fullShare} fb)
      ∗ ((slot 1 7).view.loc (c : Thread nD τ) ↦[(slot 1 7).view.set]{fullShare} fb)
      ∗ ((chunk outM (fwd c 25) 0).view.loc (c : Thread nD τ) ↦[(chunk outM (fwd c 25) 0).view.set]{fullShare} fo)
      ∗ ((chunk outM (fwd c 25) 1).view.loc (c : Thread nD τ) ↦[(chunk outM (fwd c 25) 1).view.set]{fullShare} fo)
      ∗ (cellInv ER (sched m) (K (barCell (fwd c 26))) (barCell (fwd c 26)) ∗ dutyTok ER (barCell (fwd c 26)) 0 (26 : Fin 32) ∗ reached ER (barCell (fwd c 26)) 0
        ∗ reached ER (dmaCell c rsR 0 6) 0 ∗ reached ER (dmaCell c rsR 1 6) 0 ∗ reached ER (dmaCell c agR 0 6) 0 ∗ reached ER (dmaCell c agR 1 6) 0)
      ∗ ((slot 0 6).view.loc (c : Thread nD τ) ↦[(slot 0 6).view.set]{fullShare} fb)
      ∗ ((slot 1 6).view.loc (c : Thread nD τ) ↦[(slot 1 6).view.set]{fullShare} fb)
      ∗ ((chunk outM (fwd c 26) 0).view.loc (c : Thread nD τ) ↦[(chunk outM (fwd c 26) 0).view.set]{fullShare} fo)
      ∗ ((chunk outM (fwd c 26) 1).view.loc (c : Thread nD τ) ↦[(chunk outM (fwd c 26) 1).view.set]{fullShare} fo)
      ∗ (cellInv ER (sched m) (K (barCell (fwd c 27))) (barCell (fwd c 27)) ∗ dutyTok ER (barCell (fwd c 27)) 0 (27 : Fin 32) ∗ reached ER (barCell (fwd c 27)) 0
        ∗ reached ER (dmaCell c rsR 0 5) 0 ∗ reached ER (dmaCell c rsR 1 5) 0 ∗ reached ER (dmaCell c agR 0 5) 0 ∗ reached ER (dmaCell c agR 1 5) 0)
      ∗ ((slot 0 5).view.loc (c : Thread nD τ) ↦[(slot 0 5).view.set]{fullShare} fb)
      ∗ ((slot 1 5).view.loc (c : Thread nD τ) ↦[(slot 1 5).view.set]{fullShare} fb)
      ∗ ((chunk outM (fwd c 27) 0).view.loc (c : Thread nD τ) ↦[(chunk outM (fwd c 27) 0).view.set]{fullShare} fo)
      ∗ ((chunk outM (fwd c 27) 1).view.loc (c : Thread nD τ) ↦[(chunk outM (fwd c 27) 1).view.set]{fullShare} fo)
      ∗ (cellInv ER (sched m) (K (barCell (fwd c 28))) (barCell (fwd c 28)) ∗ dutyTok ER (barCell (fwd c 28)) 0 (28 : Fin 32) ∗ reached ER (barCell (fwd c 28)) 0
        ∗ reached ER (dmaCell c rsR 0 4) 0 ∗ reached ER (dmaCell c rsR 1 4) 0 ∗ reached ER (dmaCell c agR 0 4) 0 ∗ reached ER (dmaCell c agR 1 4) 0)
      ∗ ((slot 0 4).view.loc (c : Thread nD τ) ↦[(slot 0 4).view.set]{fullShare} fb)
      ∗ ((slot 1 4).view.loc (c : Thread nD τ) ↦[(slot 1 4).view.set]{fullShare} fb)
      ∗ ((chunk outM (fwd c 28) 0).view.loc (c : Thread nD τ) ↦[(chunk outM (fwd c 28) 0).view.set]{fullShare} fo)
      ∗ ((chunk outM (fwd c 28) 1).view.loc (c : Thread nD τ) ↦[(chunk outM (fwd c 28) 1).view.set]{fullShare} fo)
      ∗ (cellInv ER (sched m) (K (barCell (fwd c 29))) (barCell (fwd c 29)) ∗ dutyTok ER (barCell (fwd c 29)) 0 (29 : Fin 32) ∗ reached ER (barCell (fwd c 29)) 0
        ∗ reached ER (dmaCell c rsR 0 3) 0 ∗ reached ER (dmaCell c rsR 1 3) 0 ∗ reached ER (dmaCell c agR 0 3) 0 ∗ reached ER (dmaCell c agR 1 3) 0)
      ∗ ((slot 0 3).view.loc (c : Thread nD τ) ↦[(slot 0 3).view.set]{fullShare} fb)
      ∗ ((slot 1 3).view.loc (c : Thread nD τ) ↦[(slot 1 3).view.set]{fullShare} fb)
      ∗ ((chunk outM (fwd c 29) 0).view.loc (c : Thread nD τ) ↦[(chunk outM (fwd c 29) 0).view.set]{fullShare} fo)
      ∗ ((chunk outM (fwd c 29) 1).view.loc (c : Thread nD τ) ↦[(chunk outM (fwd c 29) 1).view.set]{fullShare} fo)
      ∗ owes (c : Thread nD τ) (O + tallyAt (barCell (fwd c 29)) () 1 + tallyAt (barCell (fwd c 28)) () 1 + tallyAt (barCell (fwd c 27)) () 1 + tallyAt (barCell (fwd c 26)) () 1 + tallyAt (barCell (fwd c 25)) () 1 + tallyAt (barCell (fwd c 24)) () 1) W
      ∗ (∀ r, (owes (c : Thread nD τ) (O) (W)) -∗ Q r))
      ⊢ wp frame (wpE (defs₀ (F := F)) 𝒱₀ c none) Set.univ (k0_part5 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v96 c32_i32_92) Q := by
  iintro ⟨⟨#IB24, TB24, #RB24, #Rr0_24, #Rr1_24, #Ra0_24, #Ra1_24⟩, S0_24, S1_24, Og0_24, Og1_24, ⟨#IB25, TB25, #RB25, #Rr0_25, #Rr1_25, #Ra0_25, #Ra1_25⟩, S0_25, S1_25, Og0_25, Og1_25, ⟨#IB26, TB26, #RB26, #Rr0_26, #Rr1_26, #Ra0_26, #Ra1_26⟩, S0_26, S1_26, Og0_26, Og1_26, ⟨#IB27, TB27, #RB27, #Rr0_27, #Rr1_27, #Ra0_27, #Ra1_27⟩, S0_27, S1_27, Og0_27, Og1_27, ⟨#IB28, TB28, #RB28, #Rr0_28, #Rr1_28, #Ra0_28, #Ra1_28⟩, S0_28, S1_28, Og0_28, Og1_28, ⟨#IB29, TB29, #RB29, #Rr0_29, #Rr1_29, #Ra0_29, #Ra1_29⟩, S0_29, S1_29, Og0_29, Og1_29, HO, Hk⟩
  sl_exec_parts
  sl_step
  iapply Hk

  iexact HO

end Cert.KernelIdeal.AllReduce

end
-- ==== Proof.BodyCopiesA.lean ====
/-
  The copies of the reduce phase, half 0: the device sends the rows of its partial product that belong to each peer into that peer's slot.
  One statement per printed part of the kernel body, over the resources that part touches and nothing else.
-/
import proofs.«900438_g7700000000000439_dist_gemm_ar_m1024_k1024_n1024_f32_gelu_v7x_i32_1_alg».proof.Proof.BodyTables
noncomputable section
namespace Cert.KernelIdeal.AllReduce
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma in
set_option maxHeartbeats 4000000 in
theorem part7_spec (c : Dev nD) (v2 : BitVec 32) (v147 : BitVec 32) (O : CellTallies nD τ sig Unit) (W : Waits sig Unit) (Q : (Σ' (v171 : BitVec 32), BitVec 32) → sProp 𝕄) :
    iprop(copyRes m K rsS rsR c 0 1
      ∗ ((chunk accM (fwd c 1) 0).view.loc (c : Thread nD τ) ↦[(chunk accM (fwd c 1) 0).view.set]{fullShare} (chunk accM (fwd c 1) 0).view.rep (sent m c (fwd c 1) 0))
      ∗ (∃ f, ((slot 0 1).view.loc (fwd c 1 : Thread nD τ) ↦[(slot 0 1).view.set]{fullShare} f))
      ∗ copyRes m K rsS rsR c 0 2
      ∗ ((chunk accM (fwd c 2) 0).view.loc (c : Thread nD τ) ↦[(chunk accM (fwd c 2) 0).view.set]{fullShare} (chunk accM (fwd c 2) 0).view.rep (sent m c (fwd c 2) 0))
      ∗ (∃ f, ((slot 0 2).view.loc (fwd c 2 : Thread nD τ) ↦[(slot 0 2).view.set]{fullShare} f))
      ∗ owes (c : Thread nD τ) (O + tallyAt (dmaCell (fwd c 2) rsR 0 2) () Nc + tallyAt (dmaCell (fwd c 1) rsR 0 1) () Nc) W
      ∗ (∀ r, (recvRes m K rsS c 0 1
        ∗ recvRes m K rsS c 0 2
        ∗ owes (c : Thread nD τ) (O) (W)) -∗ Q r))
      ⊢ wp frame (wpE (defs₀ (F := F)) 𝒱₀ c none) Set.univ (k0_part7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v147) Q := by
  unfold copyRes
  iintro ⟨⟨#ISrsS0_1, TSrsS0_1, #RSrsS0_1, ASrsS0_1, #IDrsS0_1, TDrsS0_1, #RDrsS0_1⟩, SrcrsS0_1, ⟨%grsS0_1, DstrsS0_1⟩, ⟨#ISrsS0_2, TSrsS0_2, #RSrsS0_2, ASrsS0_2, #IDrsS0_2, TDrsS0_2, #RDrsS0_2⟩, SrcrsS0_2, ⟨%grsS0_2, DstrsS0_2⟩, HO, Hk⟩
  sl_exec_parts (disch := simp only [dev32_eq, dev33_eq])
  iapply (wp_send_rs m K c 0 1 (by decide) grsS0_1 (W) (O + tallyAt (dmaCell (fwd c 2) rsR 0 2) () Nc + tallyAt (dmaCell (fwd c 1) rsR 0 1) () Nc) (O + tallyAt (dmaCell (fwd c 2) rsR 0 2) () Nc) rfl) $$ [TSrsS0_1 TDrsS0_1 SrcrsS0_1 DstrsS0_1 HO]
  · isplitr; · iexact ISrsS0_1
    isplitr; · iexact IDrsS0_1
    isplitl [SrcrsS0_1]; · iexact SrcrsS0_1
    isplitl [DstrsS0_1]; · iexact DstrsS0_1
    isplitl [HO]; · iexact HO
    isplitl [TSrsS0_1]; · iexact TSrsS0_1
    isplitr; · iexact RSrsS0_1
    isplitl [TDrsS0_1]; · iexact TDrsS0_1
    iexact RDrsS0_1
  iintro ⟨CSrsS0_1, HO⟩
  sl_exec_parts (disch := simp only [dev32_eq, dev33_eq])
  iapply (wp_send_rs m K c 0 2 (by decide) grsS0_2 (W) (O + tallyAt (dmaCell (fwd c 2) rsR 0 2) () Nc) (O) rfl) $$ [TSrsS0_2 TDrsS0_2 SrcrsS0_2 DstrsS0_2 HO]
  · isplitr; · iexact ISrsS0_2
    isplitr; · iexact IDrsS0_2
    isplitl [SrcrsS0_2]; · iexact SrcrsS0_2
    isplitl [DstrsS0_2]; · iexact DstrsS0_2
    isplitl [HO]; · iexact HO
    isplitl [TSrsS0_2]; · iexact TSrsS0_2
    isplitr; · iexact RSrsS0_2
    isplitl [TDrsS0_2]; · iexact TDrsS0_2
    iexact RDrsS0_2
  iintro ⟨CSrsS0_2, HO⟩
  sl_exec_parts (disch := simp only [dev32_eq, dev33_eq])
  sl_step
  iapply Hk
  isplitl [ASrsS0_1 CSrsS0_1]
  · (try unfold recvRes)
    isplitr; · iexact ISrsS0_1
    isplitl [ASrsS0_1]; · iexact ASrsS0_1
    iexact CSrsS0_1
  isplitl [ASrsS0_2 CSrsS0_2]
  · (try unfold recvRes)
    isplitr; · iexact ISrsS0_2
    isplitl [ASrsS0_2]; · iexact ASrsS0_2
    iexact CSrsS0_2
  iexact HO

attribute [local sl_rounds] duties_dma amount_dma expect_dma in
set_option maxHeartbeats 4000000 in
theorem part8_spec (c : Dev nD) (v2 : BitVec 32) (v171 : BitVec 32) (c1_i32_173 : BitVec 32) (O : CellTallies nD τ sig Unit) (W : Waits sig Unit) (Q : (PUnit) → sProp 𝕄) :
    iprop(copyRes m K rsS rsR c 0 3
      ∗ ((chunk accM (fwd c 3) 0).view.loc (c : Thread nD τ) ↦[(chunk accM (fwd c 3) 0).view.set]{fullShare} (chunk accM (fwd c 3) 0).view.rep (sent m c (fwd c 3) 0))
      ∗ (∃ f, ((slot 0 3).view.loc (fwd c 3 : Thread nD τ) ↦[(slot 0 3).view.set]{fullShare} f))
      ∗ copyRes m K rsS rsR c 0 4
      ∗ ((chunk accM (fwd c 4) 0).view.loc (c : Thread nD τ) ↦[(chunk accM (fwd c 4) 0).view.set]{fullShare} (chunk accM (fwd c 4) 0).view.rep (sent m c (fwd c 4) 0))
      ∗ (∃ f, ((slot 0 4).view.loc (fwd c 4 : Thread nD τ) ↦[(slot 0 4).view.set]{fullShare} f))
      ∗ owes (c : Thread nD τ) (O + tallyAt (dmaCell (fwd c 4) rsR 0 4) () Nc + tallyAt (dmaCell (fwd c 3) rsR 0 3) () Nc) W
      ∗ (∀ r, (recvRes m K rsS c 0 3
        ∗ recvRes m K rsS c 0 4
        ∗ owes (c : Thread nD τ) (O) (W)) -∗ Q r))
      ⊢ wp frame (wpE (defs₀ (F := F)) 𝒱₀ c none) Set.univ (k0_part8 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v171 c1_i32_173) Q := by
  unfold copyRes
  iintro ⟨⟨#ISrsS0_3, TSrsS0_3, #RSrsS0_3, ASrsS0_3, #IDrsS0_3, TDrsS0_3, #RDrsS0_3⟩, SrcrsS0_3, ⟨%grsS0_3, DstrsS0_3⟩, ⟨#ISrsS0_4, TSrsS0_4, #RSrsS0_4, ASrsS0_4, #IDrsS0_4, TDrsS0_4, #RDrsS0_4⟩, SrcrsS0_4, ⟨%grsS0_4, DstrsS0_4⟩, HO, Hk⟩
  sl_exec_parts (disch := simp only [dev34_eq, dev35_eq])
  iapply (wp_send_rs m K c 0 3 (by decide) grsS0_3 (W) (O + tallyAt (dmaCell (fwd c 4) rsR 0 4) () Nc + tallyAt (dmaCell (fwd c 3) rsR 0 3) () Nc) (O + tallyAt (dmaCell (fwd c 4) rsR 0 4) () Nc) rfl) $$ [TSrsS0_3 TDrsS0_3 SrcrsS0_3 DstrsS0_3 HO]
  · isplitr; · iexact ISrsS0_3
    isplitr; · iexact IDrsS0_3
    isplitl [SrcrsS0_3]; · iexact SrcrsS0_3
    isplitl [DstrsS0_3]; · iexact DstrsS0_3
    isplitl [HO]; · iexact HO
    isplitl [TSrsS0_3]; · iexact TSrsS0_3
    isplitr; · iexact RSrsS0_3
    isplitl [TDrsS0_3]; · iexact TDrsS0_3
    iexact RDrsS0_3
  iintro ⟨CSrsS0_3, HO⟩
  sl_exec_parts (disch := simp only [dev34_eq, dev35_eq])
  iapply (wp_send_rs m K c 0 4 (by decide) grsS0_4 (W) (O + tallyAt (dmaCell (fwd c 4) rsR 0 4) () Nc) (O) rfl) $$ [TSrsS0_4 TDrsS0_4 SrcrsS0_4 DstrsS0_4 HO]
  · isplitr; · iexact ISrsS0_4
    isplitr; · iexact IDrsS0_4
    isplitl [SrcrsS0_4]; · iexact SrcrsS0_4
    isplitl [DstrsS0_4]; · iexact DstrsS0_4
    isplitl [HO]; · iexact HO
    isplitl [TSrsS0_4]; · iexact TSrsS0_4
    isplitr; · iexact RSrsS0_4
    isplitl [TDrsS0_4]; · iexact TDrsS0_4
    iexact RDrsS0_4
  iintro ⟨CSrsS0_4, HO⟩
  sl_exec_parts (disch := simp only [dev34_eq, dev35_eq])
  sl_step
  iapply Hk
  isplitl [ASrsS0_3 CSrsS0_3]
  · (try unfold recvRes)
    isplitr; · iexact ISrsS0_3
    isplitl [ASrsS0_3]; · iexact ASrsS0_3
    iexact CSrsS0_3
  isplitl [ASrsS0_4 CSrsS0_4]
  · (try unfold recvRes)
    isplitr; · iexact ISrsS0_4
    isplitl [ASrsS0_4]; · iexact ASrsS0_4
    iexact CSrsS0_4
  iexact HO

attribute [local sl_rounds] duties_dma amount_dma expect_dma in
set_option maxHeartbeats 4000000 in
theorem part9_spec (c : Dev nD) (v2 : BitVec 32) (O : CellTallies nD τ sig Unit) (W : Waits sig Unit) (Q : (PUnit) → sProp 𝕄) :
    iprop(copyRes m K rsS rsR c 0 5
      ∗ ((chunk accM (fwd c 5) 0).view.loc (c : Thread nD τ) ↦[(chunk accM (fwd c 5) 0).view.set]{fullShare} (chunk accM (fwd c 5) 0).view.rep (sent m c (fwd c 5) 0))
      ∗ (∃ f, ((slot 0 5).view.loc (fwd c 5 : Thread nD τ) ↦[(slot 0 5).view.set]{fullShare} f))
      ∗ copyRes m K rsS rsR c 0 6
      ∗ ((chunk accM (fwd c 6) 0).view.loc (c : Thread nD τ) ↦[(chunk accM (fwd c 6) 0).view.set]{fullShare} (chunk accM (fwd c 6) 0).view.rep (sent m c (fwd c 6) 0))
      ∗ (∃ f, ((slot 0 6).view.loc (fwd c 6 : Thread nD τ) ↦[(slot 0 6).view.set]{fullShare} f))
      ∗ owes (c : Thread nD τ) (O + tallyAt (dmaCell (fwd c 6) rsR 0 6) () Nc + tallyAt (dmaCell (fwd c 5) rsR 0 5) () Nc) W
      ∗ (∀ r, (recvRes m K rsS c 0 5
        ∗ recvRes m K rsS c 0 6
        ∗ owes (c : Thread nD τ) (O) (W)) -∗ Q r))
      ⊢ wp frame (wpE (defs₀ (F := F)) 𝒱₀ c none) Set.univ (k0_part9 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS0_5, TSrsS0_5, #RSrsS0_5, ASrsS0_5, #IDrsS0_5, TDrsS0_5, #RDrsS0_5⟩, SrcrsS0_5, ⟨%grsS0_5, DstrsS0_5⟩, ⟨#ISrsS0_6, TSrsS0_6, #RSrsS0_6, ASrsS0_6, #IDrsS0_6, TDrsS0_6, #RDrsS0_6⟩, SrcrsS0_6, ⟨%grsS0_6, DstrsS0_6⟩, HO, Hk⟩
  sl_exec_parts (disch := simp only [dev36_eq, dev37_eq])
  iapply (wp_send_rs m K c 0 5 (by decide) grsS0_5 (W) (O + tallyAt (dmaCell (fwd c 6) rsR 0 6) () Nc + tallyAt (dmaCell (fwd c 5) rsR 0 5) () Nc) (O + tallyAt (dmaCell (fwd c 6) rsR 0 6) () Nc) rfl) $$ [TSrsS0_5 TDrsS0_5 SrcrsS0_5 DstrsS0_5 HO]
  · isplitr; · iexact ISrsS0_5
    isplitr; · iexact IDrsS0_5
    isplitl [SrcrsS0_5]; · iexact SrcrsS0_5
    isplitl [DstrsS0_5]; · iexact DstrsS0_5
    isplitl [HO]; · iexact HO
    isplitl [TSrsS0_5]; · iexact TSrsS0_5
    isplitr; · iexact RSrsS0_5
    isplitl [TDrsS0_5]; · iexact TDrsS0_5
    iexact RDrsS0_5
  iintro ⟨CSrsS0_5, HO⟩
  sl_exec_parts (disch := simp only [dev36_eq, dev37_eq])
  iapply (wp_send_rs m K c 0 6 (by decide) grsS0_6 (W) (O + tallyAt (dmaCell (fwd c 6) rsR 0 6) () Nc) (O) rfl) $$ [TSrsS0_6 TDrsS0_6 SrcrsS0_6 DstrsS0_6 HO]
  · isplitr; · iexact ISrsS0_6
    isplitr; · iexact IDrsS0_6
    isplitl [SrcrsS0_6]; · iexact SrcrsS0_6
    isplitl [DstrsS0_6]; · iexact DstrsS0_6
    isplitl [HO]; · iexact HO
    isplitl [TSrsS0_6]; · iexact TSrsS0_6
    isplitr; · iexact RSrsS0_6
    isplitl [TDrsS0_6]; · iexact TDrsS0_6
    iexact RDrsS0_6
  iintro ⟨CSrsS0_6, HO⟩
  sl_exec_parts (disch := simp only [dev36_eq, dev37_eq])
  sl_step
  iapply Hk
  isplitl [ASrsS0_5 CSrsS0_5]
  · (try unfold recvRes)
    isplitr; · iexact ISrsS0_5
    isplitl [ASrsS0_5]; · iexact ASrsS0_5
    iexact CSrsS0_5
  isplitl [ASrsS0_6 CSrsS0_6]
  · (try unfold recvRes)
    isplitr; · iexact ISrsS0_6
    isplitl [ASrsS0_6]; · iexact ASrsS0_6
    iexact CSrsS0_6
  iexact HO

attribute [local sl_rounds] duties_dma amount_dma expect_dma in
set_option maxHeartbeats 4000000 in
theorem part10_spec (c : Dev nD) (v2 : BitVec 32) (O : CellTallies nD τ sig Unit) (W : Waits sig Unit) (Q : (BitVec 32) → sProp 𝕄) :
    iprop(copyRes m K rsS rsR c 0 7
      ∗ ((chunk accM (fwd c 7) 0).view.loc (c : Thread nD τ) ↦[(chunk accM (fwd c 7) 0).view.set]{fullShare} (chunk accM (fwd c 7) 0).view.rep (sent m c (fwd c 7) 0))
      ∗ (∃ f, ((slot 0 7).view.loc (fwd c 7 : Thread nD τ) ↦[(slot 0 7).view.set]{fullShare} f))
      ∗ copyRes m K rsS rsR c 0 8
      ∗ ((chunk accM (fwd c 8) 0).view.loc (c : Thread nD τ) ↦[(chunk accM (fwd c 8) 0).view.set]{fullShare} (chunk accM (fwd c 8) 0).view.rep (sent m c (fwd c 8) 0))
      ∗ (∃ f, ((slot 0 8).view.loc (fwd c 8 : Thread nD τ) ↦[(slot 0 8).view.set]{fullShare} f))
      ∗ copyRes m K rsS rsR c 0 9
      ∗ ((chunk accM (fwd c 9) 0).view.loc (c : Thread nD τ) ↦[(chunk accM (fwd c 9) 0).view.set]{fullShare} (chunk accM (fwd c 9) 0).view.rep (sent m c (fwd c 9) 0))
      ∗ (∃ f, ((slot 0 9).view.loc (fwd c 9 : Thread nD τ) ↦[(slot 0 9).view.set]{fullShare} f))
      ∗ owes (c : Thread nD τ) (O + tallyAt (dmaCell (fwd c 9) rsR 0 9) () Nc + tallyAt (dmaCell (fwd c 8) rsR 0 8) () Nc + tallyAt (dmaCell (fwd c 7) rsR 0 7) () Nc) W
      ∗ (∀ r, (recvRes m K rsS c 0 7
        ∗ recvRes m K rsS c 0 8
        ∗ recvRes m K rsS c 0 9
        ∗ owes (c : Thread nD τ) (O) (W)) -∗ Q r))
      ⊢ wp frame (wpE (defs₀ (F := F)) 𝒱₀ c none) Set.univ (k0_part10 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS0_7, TSrsS0_7, #RSrsS0_7, ASrsS0_7, #IDrsS0_7, TDrsS0_7, #RDrsS0_7⟩, SrcrsS0_7, ⟨%grsS0_7, DstrsS0_7⟩, ⟨#ISrsS0_8, TSrsS0_8, #RSrsS0_8, ASrsS0_8, #IDrsS0_8, TDrsS0_8, #RDrsS0_8⟩, SrcrsS0_8, ⟨%grsS0_8, DstrsS0_8⟩, ⟨#ISrsS0_9, TSrsS0_9, #RSrsS0_9, ASrsS0_9, #IDrsS0_9, TDrsS0_9, #RDrsS0_9⟩, SrcrsS0_9, ⟨%grsS0_9, DstrsS0_9⟩, HO, Hk⟩
  sl_exec_parts (disch := simp only [dev38_eq, dev39_eq, dev40_eq])
  iapply (wp_send_rs m K c 0 7 (by decide) grsS0_7 (W) (O + tallyAt (dmaCell (fwd c 9) rsR 0 9) () Nc + tallyAt (dmaCell (fwd c 8) rsR 0 8) () Nc + tallyAt (dmaCell (fwd c 7) rsR 0 7) () Nc) (O + tallyAt (dmaCell (fwd c 9) rsR 0 9) () Nc + tallyAt (dmaCell (fwd c 8) rsR 0 8) () Nc) rfl) $$ [TSrsS0_7 TDrsS0_7 SrcrsS0_7 DstrsS0_7 HO]
  · isplitr; · iexact ISrsS0_7
    isplitr; · iexact IDrsS0_7
    isplitl [SrcrsS0_7]; · iexact SrcrsS0_7
    isplitl [DstrsS0_7]; · iexact DstrsS0_7
    isplitl [HO]; · iexact HO
    isplitl [TSrsS0_7]; · iexact TSrsS0_7
    isplitr; · iexact RSrsS0_7
    isplitl [TDrsS0_7]; · iexact TDrsS0_7
    iexact RDrsS0_7
  iintro ⟨CSrsS0_7, HO⟩
  sl_exec_parts (disch := simp only [dev38_eq, dev39_eq, dev40_eq])
  iapply (wp_send_rs m K c 0 8 (by decide) grsS0_8 (W) (O + tallyAt (dmaCell (fwd c 9) rsR 0 9) () Nc + tallyAt (dmaCell (fwd c 8) rsR 0 8) () Nc) (O + tallyAt (dmaCell (fwd c 9) rsR 0 9) () Nc) rfl) $$ [TSrsS0_8 TDrsS0_8 SrcrsS0_8 DstrsS0_8 HO]
  · isplitr; · iexact ISrsS0_8
    isplitr; · iexact IDrsS0_8
    isplitl [SrcrsS0_8]; · iexact SrcrsS0_8
    isplitl [DstrsS0_8]; · iexact DstrsS0_8
    isplitl [HO]; · iexact HO
    isplitl [TSrsS0_8]; · iexact TSrsS0_8
    isplitr; · iexact RSrsS0_8
    isplitl [TDrsS0_8]; · iexact TDrsS0_8
    iexact RDrsS0_8
  iintro ⟨CSrsS0_8, HO⟩
  sl_exec_parts (disch := simp only [dev38_eq, dev39_eq, dev40_eq])
  iapply (wp_send_rs m K c 0 9 (by decide) grsS0_9 (W) (O + tallyAt (dmaCell (fwd c 9) rsR 0 9) () Nc) (O) rfl) $$ [TSrsS0_9 TDrsS0_9 SrcrsS0_9 DstrsS0_9 HO]
  · isplitr; · iexact ISrsS0_9
    isplitr; · iexact IDrsS0_9
    isplitl [SrcrsS0_9]; · iexact SrcrsS0_9
    isplitl [DstrsS0_9]; · iexact DstrsS0_9
    isplitl [HO]; · iexact HO
    isplitl [TSrsS0_9]; · iexact TSrsS0_9
    isplitr; · iexact RSrsS0_9
    isplitl [TDrsS0_9]; · iexact TDrsS0_9
    iexact RDrsS0_9
  iintro ⟨CSrsS0_9, HO⟩
  sl_exec_parts (disch := simp only [dev38_eq, dev39_eq, dev40_eq])
  sl_step
  iapply Hk
  isplitl [ASrsS0_7 CSrsS0_7]
  · (try unfold recvRes)
    isplitr; · iexact ISrsS0_7
    isplitl [ASrsS0_7]; · iexact ASrsS0_7
    iexact CSrsS0_7
  isplitl [ASrsS0_8 CSrsS0_8]
  · (try unfold recvRes)
    isplitr; · iexact ISrsS0_8
    isplitl [ASrsS0_8]; · iexact ASrsS0_8
    iexact CSrsS0_8
  isplitl [ASrsS0_9 CSrsS0_9]
  · (try unfold recvRes)
    isplitr; · iexact ISrsS0_9
    isplitl [ASrsS0_9]; · iexact ASrsS0_9
    iexact CSrsS0_9
  iexact HO

attribute [local sl_rounds] duties_dma amount_dma expect_dma in
set_option maxHeartbeats 4000000 in
theorem part11_spec (c : Dev nD) (v2 : BitVec 32) (v255 : BitVec 32) (O : CellTallies nD τ sig Unit) (W : Waits sig Unit) (Q : (BitVec 32) → sProp 𝕄) :
    iprop(copyRes m K rsS rsR c 0 10
      ∗ ((chunk accM (fwd c 10) 0).view.loc (c : Thread nD τ) ↦[(chunk accM (fwd c 10) 0).view.set]{fullShare} (chunk accM (fwd c 10) 0).view.rep (sent m c (fwd c 10) 0))
      ∗ (∃ f, ((slot 0 10).view.loc (fwd c 10 : Thread nD τ) ↦[(slot 0 10).view.set]{fullShare} f))
      ∗ copyRes m K rsS rsR c 0 11
      ∗ ((chunk accM (fwd c 11) 0).view.loc (c : Thread nD τ) ↦[(chunk accM (fwd c 11) 0).view.set]{fullShare} (chunk accM (fwd c 11) 0).view.rep (sent m c (fwd c 11) 0))
      ∗ (∃ f, ((slot 0 11).view.loc (fwd c 11 : Thread nD τ) ↦[(slot 0 11).view.set]{fullShare} f))
      ∗ owes (c : Thread nD τ) (O + tallyAt (dmaCell (fwd c 11) rsR 0 11) () Nc + tallyAt (dmaCell (fwd c 10) rsR 0 10) () Nc) W
      ∗ (∀ r, (recvRes m K rsS c 0 10
        ∗ recvRes m K rsS c 0 11
        ∗ owes (c : Thread nD τ) (O) (W)) -∗ Q r))
      ⊢ wp frame (wpE (defs₀ (F := F)) 𝒱₀ c none) Set.univ (k0_part11 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v255) Q := by
  unfold copyRes
  iintro ⟨⟨#ISrsS0_10, TSrsS0_10, #RSrsS0_10, ASrsS0_10, #IDrsS0_10, TDrsS0_10, #RDrsS0_10⟩, SrcrsS0_10, ⟨%grsS0_10, DstrsS0_10⟩, ⟨#ISrsS0_11, TSrsS0_11, #RSrsS0_11, ASrsS0_11, #IDrsS0_11, TDrsS0_11, #RDrsS0_11⟩, SrcrsS0_11, ⟨%grsS0_11, DstrsS0_11⟩, HO, Hk⟩
  sl_exec_parts (disch := simp only [dev41_eq, dev42_eq])
  iapply (wp_send_rs m K c 0 10 (by decide) grsS0_10 (W) (O + tallyAt (dmaCell (fwd c 11) rsR 0 11) () Nc + tallyAt (dmaCell (fwd c 10) rsR 0 10) () Nc) (O + tallyAt (dmaCell (fwd c 11) rsR 0 11) () Nc) rfl) $$ [TSrsS0_10 TDrsS0_10 SrcrsS0_10 DstrsS0_10 HO]
  · isplitr; · iexact ISrsS0_10
    isplitr; · iexact IDrsS0_10
    isplitl [SrcrsS0_10]; · iexact SrcrsS0_10
    isplitl [DstrsS0_10]; · iexact DstrsS0_10
    isplitl [HO]; · iexact HO
    isplitl [TSrsS0_10]; · iexact TSrsS0_10
    isplitr; · iexact RSrsS0_10
    isplitl [TDrsS0_10]; · iexact TDrsS0_10
    iexact RDrsS0_10
  iintro ⟨CSrsS0_10, HO⟩
  sl_exec_parts (disch := simp only [dev41_eq, dev42_eq])
  iapply (wp_send_rs m K c 0 11 (by decide) grsS0_11 (W) (O + tallyAt (dmaCell (fwd c 11) rsR 0 11) () Nc) (O) rfl) $$ [TSrsS0_11 TDrsS0_11 SrcrsS0_11 DstrsS0_11 HO]
  · isplitr; · iexact ISrsS0_11
    isplitr; · iexact IDrsS0_11
    isplitl [SrcrsS0_11]; · iexact SrcrsS0_11
    isplitl [DstrsS0_11]; · iexact DstrsS0_11
    isplitl [HO]; · iexact HO
    isplitl [TSrsS0_11]; · iexact TSrsS0_11
    isplitr; · iexact RSrsS0_11
    isplitl [TDrsS0_11]; · iexact TDrsS0_11
    iexact RDrsS0_11
  iintro ⟨CSrsS0_11, HO⟩
  sl_exec_parts (disch := simp only [dev41_eq, dev42_eq])
  sl_step
  iapply Hk
  isplitl [ASrsS0_10 CSrsS0_10]
  · (try unfold recvRes)
    isplitr; · iexact ISrsS0_10
    isplitl [ASrsS0_10]; · iexact ASrsS0_10
    iexact CSrsS0_10
  isplitl [ASrsS0_11 CSrsS0_11]
  · (try unfold recvRes)
    isplitr; · iexact ISrsS0_11
    isplitl [ASrsS0_11]; · iexact ASrsS0_11
    iexact CSrsS0_11
  iexact HO

attribute [local sl_rounds] duties_dma amount_dma expect_dma in
set_option maxHeartbeats 4000000 in
theorem part12_spec (c : Dev nD) (v2 : BitVec 32) (v279 : BitVec 32) (O : CellTallies nD τ sig Unit) (W : Waits sig Unit) (Q : (PUnit) → sProp 𝕄) :
    iprop(copyRes m K rsS rsR c 0 12
      ∗ ((chunk accM (fwd c 12) 0).view.loc (c : Thread nD τ) ↦[(chunk accM (fwd c 12) 0).view.set]{fullShare} (chunk accM (fwd c 12) 0).view.rep (sent m c (fwd c 12) 0))
      ∗ (∃ f, ((slot 0 12).view.loc (fwd c 12 : Thread nD τ) ↦[(slot 0 12).view.set]{fullShare} f))
      ∗ copyRes m K rsS rsR c 0 13
      ∗ ((chunk accM (fwd c 13) 0).view.loc (c : Thread nD τ) ↦[(chunk accM (fwd c 13) 0).view.set]{fullShare} (chunk accM (fwd c 13) 0).view.rep (sent m c (fwd c 13) 0))
      ∗ (∃ f, ((slot 0 13).view.loc (fwd c 13 : Thread nD τ) ↦[(slot 0 13).view.set]{fullShare} f))
      ∗ owes (c : Thread nD τ) (O + tallyAt (dmaCell (fwd c 13) rsR 0 13) () Nc + tallyAt (dmaCell (fwd c 12) rsR 0 12) () Nc) W
      ∗ (∀ r, (recvRes m K rsS c 0 12
        ∗ recvRes m K rsS c 0 13
        ∗ owes (c : Thread nD τ) (O) (W)) -∗ Q r))
      ⊢ wp frame (wpE (defs₀ (F := F)) 𝒱₀ c none) Set.univ (k0_part12 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v279) Q := by
  unfold copyRes
  iintro ⟨⟨#ISrsS0_12, TSrsS0_12, #RSrsS0_12, ASrsS0_12, #IDrsS0_12, TDrsS0_12, #RDrsS0_12⟩, SrcrsS0_12, ⟨%grsS0_12, DstrsS0_12⟩, ⟨#ISrsS0_13, TSrsS0_13, #RSrsS0_13, ASrsS0_13, #IDrsS0_13, TDrsS0_13, #RDrsS0_13⟩, SrcrsS0_13, ⟨%grsS0_13, DstrsS0_13⟩, HO, Hk⟩
  sl_exec_parts (disch := simp only [dev43_eq, dev44_eq])
  iapply (wp_send_rs m K c 0 12 (by decide) grsS0_12 (W) (O + tallyAt (dmaCell (fwd c 13) rsR 0 13) () Nc + tallyAt (dmaCell (fwd c 12) rsR 0 12) () Nc) (O + tallyAt (dmaCell (fwd c 13) rsR 0 13) () Nc) rfl) $$ [TSrsS0_12 TDrsS0_12 SrcrsS0_12 DstrsS0_12 HO]
  · isplitr; · iexact ISrsS0_12
    isplitr; · iexact IDrsS0_12
    isplitl [SrcrsS0_12]; · iexact SrcrsS0_12
    isplitl [DstrsS0_12]; · iexact DstrsS0_12
    isplitl [HO]; · iexact HO
    isplitl [TSrsS0_12]; · iexact TSrsS0_12
    isplitr; · iexact RSrsS0_12
    isplitl [TDrsS0_12]; · iexact TDrsS0_12
    iexact RDrsS0_12
  iintro ⟨CSrsS0_12, HO⟩
  sl_exec_parts (disch := simp only [dev43_eq, dev44_eq])
  iapply (wp_send_rs m K c 0 13 (by decide) grsS0_13 (W) (O + tallyAt (dmaCell (fwd c 13) rsR 0 13) () Nc) (O) rfl) $$ [TSrsS0_13 TDrsS0_13 SrcrsS0_13 DstrsS0_13 HO]
  · isplitr; · iexact ISrsS0_13
    isplitr; · iexact IDrsS0_13
    isplitl [SrcrsS0_13]; · iexact SrcrsS0_13
    isplitl [DstrsS0_13]; · iexact DstrsS0_13
    isplitl [HO]; · iexact HO
    isplitl [TSrsS0_13]; · iexact TSrsS0_13
    isplitr; · iexact RSrsS0_13
    isplitl [TDrsS0_13]; · iexact TDrsS0_13
    iexact RDrsS0_13
  iintro ⟨CSrsS0_13, HO⟩
  sl_exec_parts (disch := simp only [dev43_eq, dev44_eq])
  sl_step
  iapply Hk
  isplitl [ASrsS0_12 CSrsS0_12]
  · (try unfold recvRes)
    isplitr; · iexact ISrsS0_12
    isplitl [ASrsS0_12]; · iexact ASrsS0_12
    iexact CSrsS0_12
  isplitl [ASrsS0_13 CSrsS0_13]
  · (try unfold recvRes)
    isplitr; · iexact ISrsS0_13
    isplitl [ASrsS0_13]; · iexact ASrsS0_13
    iexact CSrsS0_13
  iexact HO

attribute [local sl_rounds] duties_dma amount_dma expect_dma in
set_option maxHeartbeats 4000000 in
theorem part13_spec (c : Dev nD) (v2 : BitVec 32) (O : CellTallies nD τ sig Unit) (W : Waits sig Unit) (Q : (PUnit) → sProp 𝕄) :
    iprop(copyRes m K rsS rsR c 0 14
      ∗ ((chunk accM (fwd c 14) 0).view.loc (c : Thread nD τ) ↦[(chunk accM (fwd c 14) 0).view.set]{fullShare} (chunk accM (fwd c 14) 0).view.rep (sent m c (fwd c 14) 0))
      ∗ (∃ f, ((slot 0 14).view.loc (fwd c 14 : Thread nD τ) ↦[(slot 0 14).view.set]{fullShare} f))
      ∗ copyRes m K rsS rsR c 0 15
      ∗ ((chunk accM (fwd c 15) 0).view.loc (c : Thread nD τ) ↦[(chunk accM (fwd c 15) 0).view.set]{fullShare} (chunk accM (fwd c 15) 0).view.rep (sent m c (fwd c 15) 0))
      ∗ (∃ f, ((slot 0 15).view.loc (fwd c 15 : Thread nD τ) ↦[(slot 0 15).view.set]{fullShare} f))
      ∗ owes (c : Thread nD τ) (O + tallyAt (dmaCell (fwd c 15) rsR 0 15) () Nc + tallyAt (dmaCell (fwd c 14) rsR 0 14) () Nc) W
      ∗ (∀ r, (recvRes m K rsS c 0 14
        ∗ recvRes m K rsS c 0 15
        ∗ owes (c : Thread nD τ) (O) (W)) -∗ Q r))
      ⊢ wp frame (wpE (defs₀ (F := F)) 𝒱₀ c none) Set.univ (k0_part13 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS0_14, TSrsS0_14, #RSrsS0_14, ASrsS0_14, #IDrsS0_14, TDrsS0_14, #RDrsS0_14⟩, SrcrsS0_14, ⟨%grsS0_14, DstrsS0_14⟩, ⟨#ISrsS0_15, TSrsS0_15, #RSrsS0_15, ASrsS0_15, #IDrsS0_15, TDrsS0_15, #RDrsS0_15⟩, SrcrsS0_15, ⟨%grsS0_15, DstrsS0_15⟩, HO, Hk⟩
  sl_exec_parts (disch := simp only [dev45_eq, dev46_eq])
  iapply (wp_send_rs m K c 0 14 (by decide) grsS0_14 (W) (O + tallyAt (dmaCell (fwd c 15) rsR 0 15) () Nc + tallyAt (dmaCell (fwd c 14) rsR 0 14) () Nc) (O + tallyAt (dmaCell (fwd c 15) rsR 0 15) () Nc) rfl) $$ [TSrsS0_14 TDrsS0_14 SrcrsS0_14 DstrsS0_14 HO]
  · isplitr; · iexact ISrsS0_14
    isplitr; · iexact IDrsS0_14
    isplitl [SrcrsS0_14]; · iexact SrcrsS0_14
    isplitl [DstrsS0_14]; · iexact DstrsS0_14
    isplitl [HO]; · iexact HO
    isplitl [TSrsS0_14]; · iexact TSrsS0_14
    isplitr; · iexact RSrsS0_14
    isplitl [TDrsS0_14]; · iexact TDrsS0_14
    iexact RDrsS0_14
  iintro ⟨CSrsS0_14, HO⟩
  sl_exec_parts (disch := simp only [dev45_eq, dev46_eq])
  iapply (wp_send_rs m K c 0 15 (by decide) grsS0_15 (W) (O + tallyAt (dmaCell (fwd c 15) rsR 0 15) () Nc) (O) rfl) $$ [TSrsS0_15 TDrsS0_15 SrcrsS0_15 DstrsS0_15 HO]
  · isplitr; · iexact ISrsS0_15
    isplitr; · iexact IDrsS0_15
    isplitl [SrcrsS0_15]; · iexact SrcrsS0_15
    isplitl [DstrsS0_15]; · iexact DstrsS0_15
    isplitl [HO]; · iexact HO
    isplitl [TSrsS0_15]; · iexact TSrsS0_15
    isplitr; · iexact RSrsS0_15
    isplitl [TDrsS0_15]; · iexact TDrsS0_15
    iexact RDrsS0_15
  iintro ⟨CSrsS0_15, HO⟩
  sl_exec_parts (disch := simp only [dev45_eq, dev46_eq])
  sl_step
  iapply Hk
  isplitl [ASrsS0_14 CSrsS0_14]
  · (try unfold recvRes)
    isplitr; · iexact ISrsS0_14
    isplitl [ASrsS0_14]; · iexact ASrsS0_14
    iexact CSrsS0_14
  isplitl [ASrsS0_15 CSrsS0_15]
  · (try unfold recvRes)
    isplitr; · iexact ISrsS0_15
    isplitl [ASrsS0_15]; · iexact ASrsS0_15
    iexact CSrsS0_15
  iexact HO

attribute [local sl_rounds] duties_dma amount_dma expect_dma in
set_option maxHeartbeats 4000000 in
theorem part14_spec (c : Dev nD) (v2 : BitVec 32) (O : CellTallies nD τ sig Unit) (W : Waits sig Unit) (Q : (BitVec 32) → sProp 𝕄) :
    iprop(copyRes m K rsS rsR c 0 16
      ∗ ((chunk accM (fwd c 16) 0).view.loc (c : Thread nD τ) ↦[(chunk accM (fwd c 16) 0).view.set]{fullShare} (chunk accM (fwd c 16) 0).view.rep (sent m c (fwd c 16) 0))
      ∗ (∃ f, ((slot 0 16).view.loc (fwd c 16 : Thread nD τ) ↦[(slot 0 16).view.set]{fullShare} f))
      ∗ copyRes m K rsS rsR c 0 17
      ∗ ((chunk accM (fwd c 17) 0).view.loc (c : Thread nD τ) ↦[(chunk accM (fwd c 17) 0).view.set]{fullShare} (chunk accM (fwd c 17) 0).view.rep (sent m c (fwd c 17) 0))
      ∗ (∃ f, ((slot 0 17).view.loc (fwd c 17 : Thread nD τ) ↦[(slot 0 17).view.set]{fullShare} f))
      ∗ copyRes m K rsS rsR c 0 18
      ∗ ((chunk accM (fwd c 18) 0).view.loc (c : Thread nD τ) ↦[(chunk accM (fwd c 18) 0).view.set]{fullShare} (chunk accM (fwd c 18) 0).view.rep (sent m c (fwd c 18) 0))
      ∗ (∃ f, ((slot 0 18).view.loc (fwd c 18 : Thread nD τ) ↦[(slot 0 18).view.set]{fullShare} f))
      ∗ owes (c : Thread nD τ) (O + tallyAt (dmaCell (fwd c 18) rsR 0 18) () Nc + tallyAt (dmaCell (fwd c 17) rsR 0 17) () Nc + tallyAt (dmaCell (fwd c 16) rsR 0 16) () Nc) W
      ∗ (∀ r, (recvRes m K rsS c 0 16
        ∗ recvRes m K rsS c 0 17
        ∗ recvRes m K rsS c 0 18
        ∗ owes (c : Thread nD τ) (O) (W)) -∗ Q r))
      ⊢ wp frame (wpE (defs₀ (F := F)) 𝒱₀ c none) Set.univ (k0_part14 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS0_16, TSrsS0_16, #RSrsS0_16, ASrsS0_16, #IDrsS0_16, TDrsS0_16, #RDrsS0_16⟩, SrcrsS0_16, ⟨%grsS0_16, DstrsS0_16⟩, ⟨#ISrsS0_17, TSrsS0_17, #RSrsS0_17, ASrsS0_17, #IDrsS0_17, TDrsS0_17, #RDrsS0_17⟩, SrcrsS0_17, ⟨%grsS0_17, DstrsS0_17⟩, ⟨#ISrsS0_18, TSrsS0_18, #RSrsS0_18, ASrsS0_18, #IDrsS0_18, TDrsS0_18, #RDrsS0_18⟩, SrcrsS0_18, ⟨%grsS0_18, DstrsS0_18⟩, HO, Hk⟩
  sl_exec_parts (disch := simp only [dev47_eq, dev48_eq, dev49_eq])
  iapply (wp_send_rs m K c 0 16 (by decide) grsS0_16 (W) (O + tallyAt (dmaCell (fwd c 18) rsR 0 18) () Nc + tallyAt (dmaCell (fwd c 17) rsR 0 17) () Nc + tallyAt (dmaCell (fwd c 16) rsR 0 16) () Nc) (O + tallyAt (dmaCell (fwd c 18) rsR 0 18) () Nc + tallyAt (dmaCell (fwd c 17) rsR 0 17) () Nc) rfl) $$ [TSrsS0_16 TDrsS0_16 SrcrsS0_16 DstrsS0_16 HO]
  · isplitr; · iexact ISrsS0_16
    isplitr; · iexact IDrsS0_16
    isplitl [SrcrsS0_16]; · iexact SrcrsS0_16
    isplitl [DstrsS0_16]; · iexact DstrsS0_16
    isplitl [HO]; · iexact HO
    isplitl [TSrsS0_16]; · iexact TSrsS0_16
    isplitr; · iexact RSrsS0_16
    isplitl [TDrsS0_16]; · iexact TDrsS0_16
    iexact RDrsS0_16
  iintro ⟨CSrsS0_16, HO⟩
  sl_exec_parts (disch := simp only [dev47_eq, dev48_eq, dev49_eq])
  iapply (wp_send_rs m K c 0 17 (by decide) grsS0_17 (W) (O + tallyAt (dmaCell (fwd c 18) rsR 0 18) () Nc + tallyAt (dmaCell (fwd c 17) rsR 0 17) () Nc) (O + tallyAt (dmaCell (fwd c 18) rsR 0 18) () Nc) rfl) $$ [TSrsS0_17 TDrsS0_17 SrcrsS0_17 DstrsS0_17 HO]
  · isplitr; · iexact ISrsS0_17
    isplitr; · iexact IDrsS0_17
    isplitl [SrcrsS0_17]; · iexact SrcrsS0_17
    isplitl [DstrsS0_17]; · iexact DstrsS0_17
    isplitl [HO]; · iexact HO
    isplitl [TSrsS0_17]; · iexact TSrsS0_17
    isplitr; · iexact RSrsS0_17
    isplitl [TDrsS0_17]; · iexact TDrsS0_17
    iexact RDrsS0_17
  iintro ⟨CSrsS0_17, HO⟩
  sl_exec_parts (disch := simp only [dev47_eq, dev48_eq, dev49_eq])
  iapply (wp_send_rs m K c 0 18 (by decide) grsS0_18 (W) (O + tallyAt (dmaCell (fwd c 18) rsR 0 18) () Nc) (O) rfl) $$ [TSrsS0_18 TDrsS0_18 SrcrsS0_18 DstrsS0_18 HO]
  · isplitr; · iexact ISrsS0_18
    isplitr; · iexact IDrsS0_18
    isplitl [SrcrsS0_18]; · iexact SrcrsS0_18
    isplitl [DstrsS0_18]; · iexact DstrsS0_18
    isplitl [HO]; · iexact HO
    isplitl [TSrsS0_18]; · iexact TSrsS0_18
    isplitr; · iexact RSrsS0_18
    isplitl [TDrsS0_18]; · iexact TDrsS0_18
    iexact RDrsS0_18
  iintro ⟨CSrsS0_18, HO⟩
  sl_exec_parts (disch := simp only [dev47_eq, dev48_eq, dev49_eq])
  sl_step
  iapply Hk
  isplitl [ASrsS0_16 CSrsS0_16]
  · (try unfold recvRes)
    isplitr; · iexact ISrsS0_16
    isplitl [ASrsS0_16]; · iexact ASrsS0_16
    iexact CSrsS0_16
  isplitl [ASrsS0_17 CSrsS0_17]
  · (try unfold recvRes)
    isplitr; · iexact ISrsS0_17
    isplitl [ASrsS0_17]; · iexact ASrsS0_17
    iexact CSrsS0_17
  isplitl [ASrsS0_18 CSrsS0_18]
  · (try unfold recvRes)
    isplitr; · iexact ISrsS0_18
    isplitl [ASrsS0_18]; · iexact ASrsS0_18
    iexact CSrsS0_18
  iexact HO

attribute [local sl_rounds] duties_dma amount_dma expect_dma in
set_option maxHeartbeats 4000000 in
theorem part15_spec (c : Dev nD) (v2 : BitVec 32) (c19_i32_388 : BitVec 32) (O : CellTallies nD τ sig Unit) (W : Waits sig Unit) (Q : (BitVec 32) → sProp 𝕄) :
    iprop(copyRes m K rsS rsR c 0 19
      ∗ ((chunk accM (fwd c 19) 0).view.loc (c : Thread nD τ) ↦[(chunk accM (fwd c 19) 0).view.set]{fullShare} (chunk accM (fwd c 19) 0).view.rep (sent m c (fwd c 19) 0))
      ∗ (∃ f, ((slot 0 19).view.loc (fwd c 19 : Thread nD τ) ↦[(slot 0 19).view.set]{fullShare} f))
      ∗ copyRes m K rsS rsR c 0 20
      ∗ ((chunk accM (fwd c 20) 0).view.loc (c : Thread nD τ) ↦[(chunk accM (fwd c 20) 0).view.set]{fullShare} (chunk accM (fwd c 20) 0).view.rep (sent m c (fwd c 20) 0))
      ∗ (∃ f, ((slot 0 20).view.loc (fwd c 20 : Thread nD τ) ↦[(slot 0 20).view.set]{fullShare} f))
      ∗ owes (c : Thread nD τ) (O + tallyAt (dmaCell (fwd c 20) rsR 0 20) () Nc + tallyAt (dmaCell (fwd c 19) rsR 0 19) () Nc) W
      ∗ (∀ r, (recvRes m K rsS c 0 19
        ∗ recvRes m K rsS c 0 20
        ∗ owes (c : Thread nD τ) (O) (W)) -∗ Q r))
      ⊢ wp frame (wpE (defs₀ (F := F)) 𝒱₀ c none) Set.univ (k0_part15 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 c19_i32_388) Q := by
  unfold copyRes
  iintro ⟨⟨#ISrsS0_19, TSrsS0_19, #RSrsS0_19, ASrsS0_19, #IDrsS0_19, TDrsS0_19, #RDrsS0_19⟩, SrcrsS0_19, ⟨%grsS0_19, DstrsS0_19⟩, ⟨#ISrsS0_20, TSrsS0_20, #RSrsS0_20, ASrsS0_20, #IDrsS0_20, TDrsS0_20, #RDrsS0_20⟩, SrcrsS0_20, ⟨%grsS0_20, DstrsS0_20⟩, HO, Hk⟩
  sl_exec_parts (disch := simp only [dev50_eq, dev51_eq])
  iapply (wp_send_rs m K c 0 19 (by decide) grsS0_19 (W) (O + tallyAt (dmaCell (fwd c 20) rsR 0 20) () Nc + tallyAt (dmaCell (fwd c 19) rsR 0 19) () Nc) (O + tallyAt (dmaCell (fwd c 20) rsR 0 20) () Nc) rfl) $$ [TSrsS0_19 TDrsS0_19 SrcrsS0_19 DstrsS0_19 HO]
  · isplitr; · iexact ISrsS0_19
    isplitr; · iexact IDrsS0_19
    isplitl [SrcrsS0_19]; · iexact SrcrsS0_19
    isplitl [DstrsS0_19]; · iexact DstrsS0_19
    isplitl [HO]; · iexact HO
    isplitl [TSrsS0_19]; · iexact TSrsS0_19
    isplitr; · iexact RSrsS0_19
    isplitl [TDrsS0_19]; · iexact TDrsS0_19
    iexact RDrsS0_19
  iintro ⟨CSrsS0_19, HO⟩
  sl_exec_parts (disch := simp only [dev50_eq, dev51_eq])
  iapply (wp_send_rs m K c 0 20 (by decide) grsS0_20 (W) (O + tallyAt (dmaCell (fwd c 20) rsR 0 20) () Nc) (O) rfl) $$ [TSrsS0_20 TDrsS0_20 SrcrsS0_20 DstrsS0_20 HO]
  · isplitr; · iexact ISrsS0_20
    isplitr; · iexact IDrsS0_20
    isplitl [SrcrsS0_20]; · iexact SrcrsS0_20
    isplitl [DstrsS0_20]; · iexact DstrsS0_20
    isplitl [HO]; · iexact HO
    isplitl [TSrsS0_20]; · iexact TSrsS0_20
    isplitr; · iexact RSrsS0_20
    isplitl [TDrsS0_20]; · iexact TDrsS0_20
    iexact RDrsS0_20
  iintro ⟨CSrsS0_20, HO⟩
  sl_exec_parts (disch := simp only [dev50_eq, dev51_eq])
  sl_step
  iapply Hk
  isplitl [ASrsS0_19 CSrsS0_19]
  · (try unfold recvRes)
    isplitr; · iexact ISrsS0_19
    isplitl [ASrsS0_19]; · iexact ASrsS0_19
    iexact CSrsS0_19
  isplitl [ASrsS0_20 CSrsS0_20]
  · (try unfold recvRes)
    isplitr; · iexact ISrsS0_20
    isplitl [ASrsS0_20]; · iexact ASrsS0_20
    iexact CSrsS0_20
  iexact HO

attribute [local sl_rounds] duties_dma amount_dma expect_dma in
set_option maxHeartbeats 4000000 in
theorem part16_spec (c : Dev nD) (v2 : BitVec 32) (v387 : BitVec 32) (O : CellTallies nD τ sig Unit) (W : Waits sig Unit) (Q : (Σ' (v411 : BitVec 32), BitVec 32) → sProp 𝕄) :
    iprop(copyRes m K rsS rsR c 0 21
      ∗ ((chunk accM (fwd c 21) 0).view.loc (c : Thread nD τ) ↦[(chunk accM (fwd c 21) 0).view.set]{fullShare} (chunk accM (fwd c 21) 0).view.rep (sent m c (fwd c 21) 0))
      ∗ (∃ f, ((slot 0 21).view.loc (fwd c 21 : Thread nD τ) ↦[(slot 0 21).view.set]{fullShare} f))
      ∗ copyRes m K rsS rsR c 0 22
      ∗ ((chunk accM (fwd c 22) 0).view.loc (c : Thread nD τ) ↦[(chunk accM (fwd c 22) 0).view.set]{fullShare} (chunk accM (fwd c 22) 0).view.rep (sent m c (fwd c 22) 0))
      ∗ (∃ f, ((slot 0 22).view.loc (fwd c 22 : Thread nD τ) ↦[(slot 0 22).view.set]{fullShare} f))
      ∗ owes (c : Thread nD τ) (O + tallyAt (dmaCell (fwd c 22) rsR 0 22) () Nc + tallyAt (dmaCell (fwd c 21) rsR 0 21) () Nc) W
      ∗ (∀ r, (recvRes m K rsS c 0 21
        ∗ recvRes m K rsS c 0 22
        ∗ owes (c : Thread nD τ) (O) (W)) -∗ Q r))
      ⊢ wp frame (wpE (defs₀ (F := F)) 𝒱₀ c none) Set.univ (k0_part16 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v387) Q := by
  unfold copyRes
  iintro ⟨⟨#ISrsS0_21, TSrsS0_21, #RSrsS0_21, ASrsS0_21, #IDrsS0_21, TDrsS0_21, #RDrsS0_21⟩, SrcrsS0_21, ⟨%grsS0_21, DstrsS0_21⟩, ⟨#ISrsS0_22, TSrsS0_22, #RSrsS0_22, ASrsS0_22, #IDrsS0_22, TDrsS0_22, #RDrsS0_22⟩, SrcrsS0_22, ⟨%grsS0_22, DstrsS0_22⟩, HO, Hk⟩
  sl_exec_parts (disch := simp only [dev52_eq, dev53_eq])
  iapply (wp_send_rs m K c 0 21 (by decide) grsS0_21 (W) (O + tallyAt (dmaCell (fwd c 22) rsR 0 22) () Nc + tallyAt (dmaCell (fwd c 21) rsR 0 21) () Nc) (O + tallyAt (dmaCell (fwd c 22) rsR 0 22) () Nc) rfl) $$ [TSrsS0_21 TDrsS0_21 SrcrsS0_21 DstrsS0_21 HO]
  · isplitr; · iexact ISrsS0_21
    isplitr; · iexact IDrsS0_21
    isplitl [SrcrsS0_21]; · iexact SrcrsS0_21
    isplitl [DstrsS0_21]; · iexact DstrsS0_21
    isplitl [HO]; · iexact HO
    isplitl [TSrsS0_21]; · iexact TSrsS0_21
    isplitr; · iexact RSrsS0_21
    isplitl [TDrsS0_21]; · iexact TDrsS0_21
    iexact RDrsS0_21
  iintro ⟨CSrsS0_21, HO⟩
  sl_exec_parts (disch := simp only [dev52_eq, dev53_eq])
  iapply (wp_send_rs m K c 0 22 (by decide) grsS0_22 (W) (O + tallyAt (dmaCell (fwd c 22) rsR 0 22) () Nc) (O) rfl) $$ [TSrsS0_22 TDrsS0_22 SrcrsS0_22 DstrsS0_22 HO]
  · isplitr; · iexact ISrsS0_22
    isplitr; · iexact IDrsS0_22
    isplitl [SrcrsS0_22]; · iexact SrcrsS0_22
    isplitl [DstrsS0_22]; · iexact DstrsS0_22
    isplitl [HO]; · iexact HO
    isplitl [TSrsS0_22]; · iexact TSrsS0_22
    isplitr; · iexact RSrsS0_22
    isplitl [TDrsS0_22]; · iexact TDrsS0_22
    iexact RDrsS0_22
  iintro ⟨CSrsS0_22, HO⟩
  sl_exec_parts (disch := simp only [dev52_eq, dev53_eq])
  sl_step
  iapply Hk
  isplitl [ASrsS0_21 CSrsS0_21]
  · (try unfold recvRes)
    isplitr; · iexact ISrsS0_21
    isplitl [ASrsS0_21]; · iexact ASrsS0_21
    iexact CSrsS0_21
  isplitl [ASrsS0_22 CSrsS0_22]
  · (try unfold recvRes)
    isplitr; · iexact ISrsS0_22
    isplitl [ASrsS0_22]; · iexact ASrsS0_22
    iexact CSrsS0_22
  iexact HO

attribute [local sl_rounds] duties_dma amount_dma expect_dma in
set_option maxHeartbeats 4000000 in
theorem part17_spec (c : Dev nD) (v2 : BitVec 32) (v411 : BitVec 32) (c1_i32_453 : BitVec 32) (O : CellTallies nD τ sig Unit) (W : Waits sig Unit) (Q : (PUnit) → sProp 𝕄) :
    iprop(copyRes m K rsS rsR c 0 23
      ∗ ((chunk accM (fwd c 23) 0).view.loc (c : Thread nD τ) ↦[(chunk accM (fwd c 23) 0).view.set]{fullShare} (chunk accM (fwd c 23) 0).view.rep (sent m c (fwd c 23) 0))
      ∗ (∃ f, ((slot 0 23).view.loc (fwd c 23 : Thread nD τ) ↦[(slot 0 23).view.set]{fullShare} f))
      ∗ copyRes m K rsS rsR c 0 24
      ∗ ((chunk accM (fwd c 24) 0).view.loc (c : Thread nD τ) ↦[(chunk accM (fwd c 24) 0).view.set]{fullShare} (chunk accM (fwd c 24) 0).view.rep (sent m c (fwd c 24) 0))
      ∗ (∃ f, ((slot 0 24).view.loc (fwd c 24 : Thread nD τ) ↦[(slot 0 24).view.set]{fullShare} f))
      ∗ owes (c : Thread nD τ) (O + tallyAt (dmaCell (fwd c 24) rsR 0 24) () Nc + tallyAt (dmaCell (fwd c 23) rsR 0 23) () Nc) W
      ∗ (∀ r, (recvRes m K rsS c 0 23
        ∗ recvRes m K rsS c 0 24
        ∗ owes (c : Thread nD τ) (O) (W)) -∗ Q r))
      ⊢ wp frame (wpE (defs₀ (F := F)) 𝒱₀ c none) Set.univ (k0_part17 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v411 c1_i32_453) Q := by
  unfold copyRes
  iintro ⟨⟨#ISrsS0_23, TSrsS0_23, #RSrsS0_23, ASrsS0_23, #IDrsS0_23, TDrsS0_23, #RDrsS0_23⟩, SrcrsS0_23, ⟨%grsS0_23, DstrsS0_23⟩, ⟨#ISrsS0_24, TSrsS0_24, #RSrsS0_24, ASrsS0_24, #IDrsS0_24, TDrsS0_24, #RDrsS0_24⟩, SrcrsS0_24, ⟨%grsS0_24, DstrsS0_24⟩, HO, Hk⟩
  sl_exec_parts (disch := simp only [dev54_eq, dev55_eq])
  iapply (wp_send_rs m K c 0 23 (by decide) grsS0_23 (W) (O + tallyAt (dmaCell (fwd c 24) rsR 0 24) () Nc + tallyAt (dmaCell (fwd c 23) rsR 0 23) () Nc) (O + tallyAt (dmaCell (fwd c 24) rsR 0 24) () Nc) rfl) $$ [TSrsS0_23 TDrsS0_23 SrcrsS0_23 DstrsS0_23 HO]
  · isplitr; · iexact ISrsS0_23
    isplitr; · iexact IDrsS0_23
    isplitl [SrcrsS0_23]; · iexact SrcrsS0_23
    isplitl [DstrsS0_23]; · iexact DstrsS0_23
    isplitl [HO]; · iexact HO
    isplitl [TSrsS0_23]; · iexact TSrsS0_23
    isplitr; · iexact RSrsS0_23
    isplitl [TDrsS0_23]; · iexact TDrsS0_23
    iexact RDrsS0_23
  iintro ⟨CSrsS0_23, HO⟩
  sl_exec_parts (disch := simp only [dev54_eq, dev55_eq])
  iapply (wp_send_rs m K c 0 24 (by decide) grsS0_24 (W) (O + tallyAt (dmaCell (fwd c 24) rsR 0 24) () Nc) (O) rfl) $$ [TSrsS0_24 TDrsS0_24 SrcrsS0_24 DstrsS0_24 HO]
  · isplitr; · iexact ISrsS0_24
    isplitr; · iexact IDrsS0_24
    isplitl [SrcrsS0_24]; · iexact SrcrsS0_24
    isplitl [DstrsS0_24]; · iexact DstrsS0_24
    isplitl [HO]; · iexact HO
    isplitl [TSrsS0_24]; · iexact TSrsS0_24
    isplitr; · iexact RSrsS0_24
    isplitl [TDrsS0_24]; · iexact TDrsS0_24
    iexact RDrsS0_24
  iintro ⟨CSrsS0_24, HO⟩
  sl_exec_parts (disch := simp only [dev54_eq, dev55_eq])
  sl_step
  iapply Hk
  isplitl [ASrsS0_23 CSrsS0_23]
  · (try unfold recvRes)
    isplitr; · iexact ISrsS0_23
    isplitl [ASrsS0_23]; · iexact ASrsS0_23
    iexact CSrsS0_23
  isplitl [ASrsS0_24 CSrsS0_24]
  · (try unfold recvRes)
    isplitr; · iexact ISrsS0_24
    isplitl [ASrsS0_24]; · iexact ASrsS0_24
    iexact CSrsS0_24
  iexact HO

attribute [local sl_rounds] duties_dma amount_dma expect_dma in
set_option maxHeartbeats 4000000 in
theorem part18_spec (c : Dev nD) (v2 : BitVec 32) (O : CellTallies nD τ sig Unit) (W : Waits sig Unit) (Q : (PUnit) → sProp 𝕄) :
    iprop(copyRes m K rsS rsR c 0 25
      ∗ ((chunk accM (fwd c 25) 0).view.loc (c : Thread nD τ) ↦[(chunk accM (fwd c 25) 0).view.set]{fullShare} (chunk accM (fwd c 25) 0).view.rep (sent m c (fwd c 25) 0))
      ∗ (∃ f, ((slot 0 25).view.loc (fwd c 25 : Thread nD τ) ↦[(slot 0 25).view.set]{fullShare} f))
      ∗ copyRes m K rsS rsR c 0 26
      ∗ ((chunk accM (fwd c 26) 0).view.loc (c : Thread nD τ) ↦[(chunk accM (fwd c 26) 0).view.set]{fullShare} (chunk accM (fwd c 26) 0).view.rep (sent m c (fwd c 26) 0))
      ∗ (∃ f, ((slot 0 26).view.loc (fwd c 26 : Thread nD τ) ↦[(slot 0 26).view.set]{fullShare} f))
      ∗ owes (c : Thread nD τ) (O + tallyAt (dmaCell (fwd c 26) rsR 0 26) () Nc + tallyAt (dmaCell (fwd c 25) rsR 0 25) () Nc) W
      ∗ (∀ r, (recvRes m K rsS c 0 25
        ∗ recvRes m K rsS c 0 26
        ∗ owes (c : Thread nD τ) (O) (W)) -∗ Q r))
      ⊢ wp frame (wpE (defs₀ (F := F)) 𝒱₀ c none) Set.univ (k0_part18 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS0_25, TSrsS0_25, #RSrsS0_25, ASrsS0_25, #IDrsS0_25, TDrsS0_25, #RDrsS0_25⟩, SrcrsS0_25, ⟨%grsS0_25, DstrsS0_25⟩, ⟨#ISrsS0_26, TSrsS0_26, #RSrsS0_26, ASrsS0_26, #IDrsS0_26, TDrsS0_26, #RDrsS0_26⟩, SrcrsS0_26, ⟨%grsS0_26, DstrsS0_26⟩, HO, Hk⟩
  sl_exec_parts (disch := simp only [dev56_eq, dev57_eq])
  iapply (wp_send_rs m K c 0 25 (by decide) grsS0_25 (W) (O + tallyAt (dmaCell (fwd c 26) rsR 0 26) () Nc + tallyAt (dmaCell (fwd c 25) rsR 0 25) () Nc) (O + tallyAt (dmaCell (fwd c 26) rsR 0 26) () Nc) rfl) $$ [TSrsS0_25 TDrsS0_25 SrcrsS0_25 DstrsS0_25 HO]
  · isplitr; · iexact ISrsS0_25
    isplitr; · iexact IDrsS0_25
    isplitl [SrcrsS0_25]; · iexact SrcrsS0_25
    isplitl [DstrsS0_25]; · iexact DstrsS0_25
    isplitl [HO]; · iexact HO
    isplitl [TSrsS0_25]; · iexact TSrsS0_25
    isplitr; · iexact RSrsS0_25
    isplitl [TDrsS0_25]; · iexact TDrsS0_25
    iexact RDrsS0_25
  iintro ⟨CSrsS0_25, HO⟩
  sl_exec_parts (disch := simp only [dev56_eq, dev57_eq])
  iapply (wp_send_rs m K c 0 26 (by decide) grsS0_26 (W) (O + tallyAt (dmaCell (fwd c 26) rsR 0 26) () Nc) (O) rfl) $$ [TSrsS0_26 TDrsS0_26 SrcrsS0_26 DstrsS0_26 HO]
  · isplitr; · iexact ISrsS0_26
    isplitr; · iexact IDrsS0_26
    isplitl [SrcrsS0_26]; · iexact SrcrsS0_26
    isplitl [DstrsS0_26]; · iexact DstrsS0_26
    isplitl [HO]; · iexact HO
    isplitl [TSrsS0_26]; · iexact TSrsS0_26
    isplitr; · iexact RSrsS0_26
    isplitl [TDrsS0_26]; · iexact TDrsS0_26
    iexact RDrsS0_26
  iintro ⟨CSrsS0_26, HO⟩
  sl_exec_parts (disch := simp only [dev56_eq, dev57_eq])
  sl_step
  iapply Hk
  isplitl [ASrsS0_25 CSrsS0_25]
  · (try unfold recvRes)
    isplitr; · iexact ISrsS0_25
    isplitl [ASrsS0_25]; · iexact ASrsS0_25
    iexact CSrsS0_25
  isplitl [ASrsS0_26 CSrsS0_26]
  · (try unfold recvRes)
    isplitr; · iexact ISrsS0_26
    isplitl [ASrsS0_26]; · iexact ASrsS0_26
    iexact CSrsS0_26
  iexact HO

attribute [local sl_rounds] duties_dma amount_dma expect_dma in
set_option maxHeartbeats 4000000 in
theorem part19_spec (c : Dev nD) (v2 : BitVec 32) (O : CellTallies nD τ sig Unit) (W : Waits sig Unit) (Q : (BitVec 32) → sProp 𝕄) :
    iprop(copyRes m K rsS rsR c 0 27
      ∗ ((chunk accM (fwd c 27) 0).view.loc (c : Thread nD τ) ↦[(chunk accM (fwd c 27) 0).view.set]{fullShare} (chunk accM (fwd c 27) 0).view.rep (sent m c (fwd c 27) 0))
      ∗ (∃ f, ((slot 0 27).view.loc (fwd c 27 : Thread nD τ) ↦[(slot 0 27).view.set]{fullShare} f))
      ∗ copyRes m K rsS rsR c 0 28
      ∗ ((chunk accM (fwd c 28) 0).view.loc (c : Thread nD τ) ↦[(chunk accM (fwd c 28) 0).view.set]{fullShare} (chunk accM (fwd c 28) 0).view.rep (sent m c (fwd c 28) 0))
      ∗ (∃ f, ((slot 0 28).view.loc (fwd c 28 : Thread nD τ) ↦[(slot 0 28).view.set]{fullShare} f))
      ∗ copyRes m K rsS rsR c 0 29
      ∗ ((chunk accM (fwd c 29) 0).view.loc (c : Thread nD τ) ↦[(chunk accM (fwd c 29) 0).view.set]{fullShare} (chunk accM (fwd c 29) 0).view.rep (sent m c (fwd c 29) 0))
      ∗ (∃ f, ((slot 0 29).view.loc (fwd c 29 : Thread nD τ) ↦[(slot 0 29).view.set]{fullShare} f))
      ∗ owes (c : Thread nD τ) (O + tallyAt (dmaCell (fwd c 29) rsR 0 29) () Nc + tallyAt (dmaCell (fwd c 28) rsR 0 28) () Nc + tallyAt (dmaCell (fwd c 27) rsR 0 27) () Nc) W
      ∗ (∀ r, (recvRes m K rsS c 0 27
        ∗ recvRes m K rsS c 0 28
        ∗ recvRes m K rsS c 0 29
        ∗ owes (c : Thread nD τ) (O) (W)) -∗ Q r))
      ⊢ wp frame (wpE (defs₀ (F := F)) 𝒱₀ c none) Set.univ (k0_part19 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS0_27, TSrsS0_27, #RSrsS0_27, ASrsS0_27, #IDrsS0_27, TDrsS0_27, #RDrsS0_27⟩, SrcrsS0_27, ⟨%grsS0_27, DstrsS0_27⟩, ⟨#ISrsS0_28, TSrsS0_28, #RSrsS0_28, ASrsS0_28, #IDrsS0_28, TDrsS0_28, #RDrsS0_28⟩, SrcrsS0_28, ⟨%grsS0_28, DstrsS0_28⟩, ⟨#ISrsS0_29, TSrsS0_29, #RSrsS0_29, ASrsS0_29, #IDrsS0_29, TDrsS0_29, #RDrsS0_29⟩, SrcrsS0_29, ⟨%grsS0_29, DstrsS0_29⟩, HO, Hk⟩
  sl_exec_parts (disch := simp only [dev58_eq, dev59_eq, dev60_eq])
  iapply (wp_send_rs m K c 0 27 (by decide) grsS0_27 (W) (O + tallyAt (dmaCell (fwd c 29) rsR 0 29) () Nc + tallyAt (dmaCell (fwd c 28) rsR 0 28) () Nc + tallyAt (dmaCell (fwd c 27) rsR 0 27) () Nc) (O + tallyAt (dmaCell (fwd c 29) rsR 0 29) () Nc + tallyAt (dmaCell (fwd c 28) rsR 0 28) () Nc) rfl) $$ [TSrsS0_27 TDrsS0_27 SrcrsS0_27 DstrsS0_27 HO]
  · isplitr; · iexact ISrsS0_27
    isplitr; · iexact IDrsS0_27
    isplitl [SrcrsS0_27]; · iexact SrcrsS0_27
    isplitl [DstrsS0_27]; · iexact DstrsS0_27
    isplitl [HO]; · iexact HO
    isplitl [TSrsS0_27]; · iexact TSrsS0_27
    isplitr; · iexact RSrsS0_27
    isplitl [TDrsS0_27]; · iexact TDrsS0_27
    iexact RDrsS0_27
  iintro ⟨CSrsS0_27, HO⟩
  sl_exec_parts (disch := simp only [dev58_eq, dev59_eq, dev60_eq])
  iapply (wp_send_rs m K c 0 28 (by decide) grsS0_28 (W) (O + tallyAt (dmaCell (fwd c 29) rsR 0 29) () Nc + tallyAt (dmaCell (fwd c 28) rsR 0 28) () Nc) (O + tallyAt (dmaCell (fwd c 29) rsR 0 29) () Nc) rfl) $$ [TSrsS0_28 TDrsS0_28 SrcrsS0_28 DstrsS0_28 HO]
  · isplitr; · iexact ISrsS0_28
    isplitr; · iexact IDrsS0_28
    isplitl [SrcrsS0_28]; · iexact SrcrsS0_28
    isplitl [DstrsS0_28]; · iexact DstrsS0_28
    isplitl [HO]; · iexact HO
    isplitl [TSrsS0_28]; · iexact TSrsS0_28
    isplitr; · iexact RSrsS0_28
    isplitl [TDrsS0_28]; · iexact TDrsS0_28
    iexact RDrsS0_28
  iintro ⟨CSrsS0_28, HO⟩
  sl_exec_parts (disch := simp only [dev58_eq, dev59_eq, dev60_eq])
  iapply (wp_send_rs m K c 0 29 (by decide) grsS0_29 (W) (O + tallyAt (dmaCell (fwd c 29) rsR 0 29) () Nc) (O) rfl) $$ [TSrsS0_29 TDrsS0_29 SrcrsS0_29 DstrsS0_29 HO]
  · isplitr; · iexact ISrsS0_29
    isplitr; · iexact IDrsS0_29
    isplitl [SrcrsS0_29]; · iexact SrcrsS0_29
    isplitl [DstrsS0_29]; · iexact DstrsS0_29
    isplitl [HO]; · iexact HO
    isplitl [TSrsS0_29]; · iexact TSrsS0_29
    isplitr; · iexact RSrsS0_29
    isplitl [TDrsS0_29]; · iexact TDrsS0_29
    iexact RDrsS0_29
  iintro ⟨CSrsS0_29, HO⟩
  sl_exec_parts (disch := simp only [dev58_eq, dev59_eq, dev60_eq])
  sl_step
  iapply Hk
  isplitl [ASrsS0_27 CSrsS0_27]
  · (try unfold recvRes)
    isplitr; · iexact ISrsS0_27
    isplitl [ASrsS0_27]; · iexact ASrsS0_27
    iexact CSrsS0_27
  isplitl [ASrsS0_28 CSrsS0_28]
  · (try unfold recvRes)
    isplitr; · iexact ISrsS0_28
    isplitl [ASrsS0_28]; · iexact ASrsS0_28
    iexact CSrsS0_28
  isplitl [ASrsS0_29 CSrsS0_29]
  · (try unfold recvRes)
    isplitr; · iexact ISrsS0_29
    isplitl [ASrsS0_29]; · iexact ASrsS0_29
    iexact CSrsS0_29
  iexact HO

end Cert.KernelIdeal.AllReduce

end
-- ==== Proof.BodyCopiesB.lean ====
/-
  The copies of the reduce phase, half 1 (and the first receive wait of half 0).
  One statement per printed part of the kernel body, over the resources that part touches and nothing else.
-/
import proofs.«900438_g7700000000000439_dist_gemm_ar_m1024_k1024_n1024_f32_gelu_v7x_i32_1_alg».proof.Proof.BodyTables
noncomputable section
namespace Cert.KernelIdeal.AllReduce
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma in
set_option maxHeartbeats 4000000 in
theorem part22_spec (c : Dev nD) (v2 : BitVec 32) (O : CellTallies nD τ sig Unit) (W : Waits sig Unit) (Q : (PUnit) → sProp 𝕄) :
    iprop(copyRes m K rsS rsR c 1 2
      ∗ ((chunk accM (fwd c 2) 1).view.loc (c : Thread nD τ) ↦[(chunk accM (fwd c 2) 1).view.set]{fullShare} (chunk accM (fwd c 2) 1).view.rep (sent m c (fwd c 2) 1))
      ∗ (∃ f, ((slot 1 2).view.loc (fwd c 2 : Thread nD τ) ↦[(slot 1 2).view.set]{fullShare} f))
      ∗ copyRes m K rsS rsR c 1 3
      ∗ ((chunk accM (fwd c 3) 1).view.loc (c : Thread nD τ) ↦[(chunk accM (fwd c 3) 1).view.set]{fullShare} (chunk accM (fwd c 3) 1).view.rep (sent m c (fwd c 3) 1))
      ∗ (∃ f, ((slot 1 3).view.loc (fwd c 3 : Thread nD τ) ↦[(slot 1 3).view.set]{fullShare} f))
      ∗ owes (c : Thread nD τ) (O + tallyAt (dmaCell (fwd c 3) rsR 1 3) () Nc + tallyAt (dmaCell (fwd c 2) rsR 1 2) () Nc) W
      ∗ (∀ r, (recvRes m K rsS c 1 2
        ∗ recvRes m K rsS c 1 3
        ∗ owes (c : Thread nD τ) (O) (W)) -∗ Q r))
      ⊢ wp frame (wpE (defs₀ (F := F)) 𝒱₀ c none) Set.univ (k0_part22 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS1_2, TSrsS1_2, #RSrsS1_2, ASrsS1_2, #IDrsS1_2, TDrsS1_2, #RDrsS1_2⟩, SrcrsS1_2, ⟨%grsS1_2, DstrsS1_2⟩, ⟨#ISrsS1_3, TSrsS1_3, #RSrsS1_3, ASrsS1_3, #IDrsS1_3, TDrsS1_3, #RDrsS1_3⟩, SrcrsS1_3, ⟨%grsS1_3, DstrsS1_3⟩, HO, Hk⟩
  sl_exec_parts (disch := simp only [dev64_eq, dev65_eq])
  iapply (wp_send_rs m K c 1 2 (by decide) grsS1_2 (W) (O + tallyAt (dmaCell (fwd c 3) rsR 1 3) () Nc + tallyAt (dmaCell (fwd c 2) rsR 1 2) () Nc) (O + tallyAt (dmaCell (fwd c 3) rsR 1 3) () Nc) rfl) $$ [TSrsS1_2 TDrsS1_2 SrcrsS1_2 DstrsS1_2 HO]
  · isplitr; · iexact ISrsS1_2
    isplitr; · iexact IDrsS1_2
    isplitl [SrcrsS1_2]; · iexact SrcrsS1_2
    isplitl [DstrsS1_2]; · iexact DstrsS1_2
    isplitl [HO]; · iexact HO
    isplitl [TSrsS1_2]; · iexact TSrsS1_2
    isplitr; · iexact RSrsS1_2
    isplitl [TDrsS1_2]; · iexact TDrsS1_2
    iexact RDrsS1_2
  iintro ⟨CSrsS1_2, HO⟩
  sl_exec_parts (disch := simp only [dev64_eq, dev65_eq])
  iapply (wp_send_rs m K c 1 3 (by decide) grsS1_3 (W) (O + tallyAt (dmaCell (fwd c 3) rsR 1 3) () Nc) (O) rfl) $$ [TSrsS1_3 TDrsS1_3 SrcrsS1_3 DstrsS1_3 HO]
  · isplitr; · iexact ISrsS1_3
    isplitr; · iexact IDrsS1_3
    isplitl [SrcrsS1_3]; · iexact SrcrsS1_3
    isplitl [DstrsS1_3]; · iexact DstrsS1_3
    isplitl [HO]; · iexact HO
    isplitl [TSrsS1_3]; · iexact TSrsS1_3
    isplitr; · iexact RSrsS1_3
    isplitl [TDrsS1_3]; · iexact TDrsS1_3
    iexact RDrsS1_3
  iintro ⟨CSrsS1_3, HO⟩
  sl_exec_parts (disch := simp only [dev64_eq, dev65_eq])
  sl_step
  iapply Hk
  isplitl [ASrsS1_2 CSrsS1_2]
  · (try unfold recvRes)
    isplitr; · iexact ISrsS1_2
    isplitl [ASrsS1_2]; · iexact ASrsS1_2
    iexact CSrsS1_2
  isplitl [ASrsS1_3 CSrsS1_3]
  · (try unfold recvRes)
    isplitr; · iexact ISrsS1_3
    isplitl [ASrsS1_3]; · iexact ASrsS1_3
    iexact CSrsS1_3
  iexact HO

attribute [local sl_rounds] duties_dma amount_dma expect_dma in
set_option maxHeartbeats 4000000 in
theorem part23_spec (c : Dev nD) (v2 : BitVec 32) (O : CellTallies nD τ sig Unit) (W : Waits sig Unit) (Q : (Σ' (v603 : BitVec 32), BitVec 32) → sProp 𝕄) :
    iprop(copyRes m K rsS rsR c 1 4
      ∗ ((chunk accM (fwd c 4) 1).view.loc (c : Thread nD τ) ↦[(chunk accM (fwd c 4) 1).view.set]{fullShare} (chunk accM (fwd c 4) 1).view.rep (sent m c (fwd c 4) 1))
      ∗ (∃ f, ((slot 1 4).view.loc (fwd c 4 : Thread nD τ) ↦[(slot 1 4).view.set]{fullShare} f))
      ∗ copyRes m K rsS rsR c 1 5
      ∗ ((chunk accM (fwd c 5) 1).view.loc (c : Thread nD τ) ↦[(chunk accM (fwd c 5) 1).view.set]{fullShare} (chunk accM (fwd c 5) 1).view.rep (sent m c (fwd c 5) 1))
      ∗ (∃ f, ((slot 1 5).view.loc (fwd c 5 : Thread nD τ) ↦[(slot 1 5).view.set]{fullShare} f))
      ∗ copyRes m K rsS rsR c 1 6
      ∗ ((chunk accM (fwd c 6) 1).view.loc (c : Thread nD τ) ↦[(chunk accM (fwd c 6) 1).view.set]{fullShare} (chunk accM (fwd c 6) 1).view.rep (sent m c (fwd c 6) 1))
      ∗ (∃ f, ((slot 1 6).view.loc (fwd c 6 : Thread nD τ) ↦[(slot 1 6).view.set]{fullShare} f))
      ∗ owes (c : Thread nD τ) (O + tallyAt (dmaCell (fwd c 6) rsR 1 6) () Nc + tallyAt (dmaCell (fwd c 5) rsR 1 5) () Nc + tallyAt (dmaCell (fwd c 4) rsR 1 4) () Nc) W
      ∗ (∀ r, (recvRes m K rsS c 1 4
        ∗ recvRes m K rsS c 1 5
        ∗ recvRes m K rsS c 1 6
        ∗ owes (c : Thread nD τ) (O) (W)) -∗ Q r))
      ⊢ wp frame (wpE (defs₀ (F := F)) 𝒱₀ c none) Set.univ (k0_part23 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS1_4, TSrsS1_4, #RSrsS1_4, ASrsS1_4, #IDrsS1_4, TDrsS1_4, #RDrsS1_4⟩, SrcrsS1_4, ⟨%grsS1_4, DstrsS1_4⟩, ⟨#ISrsS1_5, TSrsS1_5, #RSrsS1_5, ASrsS1_5, #IDrsS1_5, TDrsS1_5, #RDrsS1_5⟩, SrcrsS1_5, ⟨%grsS1_5, DstrsS1_5⟩, ⟨#ISrsS1_6, TSrsS1_6, #RSrsS1_6, ASrsS1_6, #IDrsS1_6, TDrsS1_6, #RDrsS1_6⟩, SrcrsS1_6, ⟨%grsS1_6, DstrsS1_6⟩, HO, Hk⟩
  sl_exec_parts (disch := simp only [dev66_eq, dev67_eq, dev68_eq])
  iapply (wp_send_rs m K c 1 4 (by decide) grsS1_4 (W) (O + tallyAt (dmaCell (fwd c 6) rsR 1 6) () Nc + tallyAt (dmaCell (fwd c 5) rsR 1 5) () Nc + tallyAt (dmaCell (fwd c 4) rsR 1 4) () Nc) (O + tallyAt (dmaCell (fwd c 6) rsR 1 6) () Nc + tallyAt (dmaCell (fwd c 5) rsR 1 5) () Nc) rfl) $$ [TSrsS1_4 TDrsS1_4 SrcrsS1_4 DstrsS1_4 HO]
  · isplitr; · iexact ISrsS1_4
    isplitr; · iexact IDrsS1_4
    isplitl [SrcrsS1_4]; · iexact SrcrsS1_4
    isplitl [DstrsS1_4]; · iexact DstrsS1_4
    isplitl [HO]; · iexact HO
    isplitl [TSrsS1_4]; · iexact TSrsS1_4
    isplitr; · iexact RSrsS1_4
    isplitl [TDrsS1_4]; · iexact TDrsS1_4
    iexact RDrsS1_4
  iintro ⟨CSrsS1_4, HO⟩
  sl_exec_parts (disch := simp only [dev66_eq, dev67_eq, dev68_eq])
  iapply (wp_send_rs m K c 1 5 (by decide) grsS1_5 (W) (O + tallyAt (dmaCell (fwd c 6) rsR 1 6) () Nc + tallyAt (dmaCell (fwd c 5) rsR 1 5) () Nc) (O + tallyAt (dmaCell (fwd c 6) rsR 1 6) () Nc) rfl) $$ [TSrsS1_5 TDrsS1_5 SrcrsS1_5 DstrsS1_5 HO]
  · isplitr; · iexact ISrsS1_5
    isplitr; · iexact IDrsS1_5
    isplitl [SrcrsS1_5]; · iexact SrcrsS1_5
    isplitl [DstrsS1_5]; · iexact DstrsS1_5
    isplitl [HO]; · iexact HO
    isplitl [TSrsS1_5]; · iexact TSrsS1_5
    isplitr; · iexact RSrsS1_5
    isplitl [TDrsS1_5]; · iexact TDrsS1_5
    iexact RDrsS1_5
  iintro ⟨CSrsS1_5, HO⟩
  sl_exec_parts (disch := simp only [dev66_eq, dev67_eq, dev68_eq])
  iapply (wp_send_rs m K c 1 6 (by decide) grsS1_6 (W) (O + tallyAt (dmaCell (fwd c 6) rsR 1 6) () Nc) (O) rfl) $$ [TSrsS1_6 TDrsS1_6 SrcrsS1_6 DstrsS1_6 HO]
  · isplitr; · iexact ISrsS1_6
    isplitr; · iexact IDrsS1_6
    isplitl [SrcrsS1_6]; · iexact SrcrsS1_6
    isplitl [DstrsS1_6]; · iexact DstrsS1_6
    isplitl [HO]; · iexact HO
    isplitl [TSrsS1_6]; · iexact TSrsS1_6
    isplitr; · iexact RSrsS1_6
    isplitl [TDrsS1_6]; · iexact TDrsS1_6
    iexact RDrsS1_6
  iintro ⟨CSrsS1_6, HO⟩
  sl_exec_parts (disch := simp only [dev66_eq, dev67_eq, dev68_eq])
  sl_step
  iapply Hk
  isplitl [ASrsS1_4 CSrsS1_4]
  · (try unfold recvRes)
    isplitr; · iexact ISrsS1_4
    isplitl [ASrsS1_4]; · iexact ASrsS1_4
    iexact CSrsS1_4
  isplitl [ASrsS1_5 CSrsS1_5]
  · (try unfold recvRes)
    isplitr; · iexact ISrsS1_5
    isplitl [ASrsS1_5]; · iexact ASrsS1_5
    iexact CSrsS1_5
  isplitl [ASrsS1_6 CSrsS1_6]
  · (try unfold recvRes)
    isplitr; · iexact ISrsS1_6
    isplitl [ASrsS1_6]; · iexact ASrsS1_6
    iexact CSrsS1_6
  iexact HO

attribute [local sl_rounds] duties_dma amount_dma expect_dma in
set_option maxHeartbeats 4000000 in
theorem part24_spec (c : Dev nD) (v2 : BitVec 32) (v603 : BitVec 32) (c32_i32_662 : BitVec 32) (O : CellTallies nD τ sig Unit) (W : Waits sig Unit) (Q : (BitVec 32) → sProp 𝕄) :
    iprop(copyRes m K rsS rsR c 1 7
      ∗ ((chunk accM (fwd c 7) 1).view.loc (c : Thread nD τ) ↦[(chunk accM (fwd c 7) 1).view.set]{fullShare} (chunk accM (fwd c 7) 1).view.rep (sent m c (fwd c 7) 1))
      ∗ (∃ f, ((slot 1 7).view.loc (fwd c 7 : Thread nD τ) ↦[(slot 1 7).view.set]{fullShare} f))
      ∗ copyRes m K rsS rsR c 1 8
      ∗ ((chunk accM (fwd c 8) 1).view.loc (c : Thread nD τ) ↦[(chunk accM (fwd c 8) 1).view.set]{fullShare} (chunk accM (fwd c 8) 1).view.rep (sent m c (fwd c 8) 1))
      ∗ (∃ f, ((slot 1 8).view.loc (fwd c 8 : Thread nD τ) ↦[(slot 1 8).view.set]{fullShare} f))
      ∗ owes (c : Thread nD τ) (O + tallyAt (dmaCell (fwd c 8) rsR 1 8) () Nc + tallyAt (dmaCell (fwd c 7) rsR 1 7) () Nc) W
      ∗ (∀ r, (recvRes m K rsS c 1 7
        ∗ recvRes m K rsS c 1 8
        ∗ owes (c : Thread nD τ) (O) (W)) -∗ Q r))
      ⊢ wp frame (wpE (defs₀ (F := F)) 𝒱₀ c none) Set.univ (k0_part24 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v603 c32_i32_662) Q := by
  unfold copyRes
  iintro ⟨⟨#ISrsS1_7, TSrsS1_7, #RSrsS1_7, ASrsS1_7, #IDrsS1_7, TDrsS1_7, #RDrsS1_7⟩, SrcrsS1_7, ⟨%grsS1_7, DstrsS1_7⟩, ⟨#ISrsS1_8, TSrsS1_8, #RSrsS1_8, ASrsS1_8, #IDrsS1_8, TDrsS1_8, #RDrsS1_8⟩, SrcrsS1_8, ⟨%grsS1_8, DstrsS1_8⟩, HO, Hk⟩
  sl_exec_parts (disch := simp only [dev69_eq, dev70_eq])
  iapply (wp_send_rs m K c 1 7 (by decide) grsS1_7 (W) (O + tallyAt (dmaCell (fwd c 8) rsR 1 8) () Nc + tallyAt (dmaCell (fwd c 7) rsR 1 7) () Nc) (O + tallyAt (dmaCell (fwd c 8) rsR 1 8) () Nc) rfl) $$ [TSrsS1_7 TDrsS1_7 SrcrsS1_7 DstrsS1_7 HO]
  · isplitr; · iexact ISrsS1_7
    isplitr; · iexact IDrsS1_7
    isplitl [SrcrsS1_7]; · iexact SrcrsS1_7
    isplitl [DstrsS1_7]; · iexact DstrsS1_7
    isplitl [HO]; · iexact HO
    isplitl [TSrsS1_7]; · iexact TSrsS1_7
    isplitr; · iexact RSrsS1_7
    isplitl [TDrsS1_7]; · iexact TDrsS1_7
    iexact RDrsS1_7
  iintro ⟨CSrsS1_7, HO⟩
  sl_exec_parts (disch := simp only [dev69_eq, dev70_eq])
  iapply (wp_send_rs m K c 1 8 (by decide) grsS1_8 (W) (O + tallyAt (dmaCell (fwd c 8) rsR 1 8) () Nc) (O) rfl) $$ [TSrsS1_8 TDrsS1_8 SrcrsS1_8 DstrsS1_8 HO]
  · isplitr; · iexact ISrsS1_8
    isplitr; · iexact IDrsS1_8
    isplitl [SrcrsS1_8]; · iexact SrcrsS1_8
    isplitl [DstrsS1_8]; · iexact DstrsS1_8
    isplitl [HO]; · iexact HO
    isplitl [TSrsS1_8]; · iexact TSrsS1_8
    isplitr; · iexact RSrsS1_8
    isplitl [TDrsS1_8]; · iexact TDrsS1_8
    iexact RDrsS1_8
  iintro ⟨CSrsS1_8, HO⟩
  sl_exec_parts (disch := simp only [dev69_eq, dev70_eq])
  sl_step
  iapply Hk
  isplitl [ASrsS1_7 CSrsS1_7]
  · (try unfold recvRes)
    isplitr; · iexact ISrsS1_7
    isplitl [ASrsS1_7]; · iexact ASrsS1_7
    iexact CSrsS1_7
  isplitl [ASrsS1_8 CSrsS1_8]
  · (try unfold recvRes)
    isplitr; · iexact ISrsS1_8
    isplitl [ASrsS1_8]; · iexact ASrsS1_8
    iexact CSrsS1_8
  iexact HO

attribute [local sl_rounds] duties_dma amount_dma expect_dma in
set_option maxHeartbeats 4000000 in
theorem part25_spec (c : Dev nD) (v2 : BitVec 32) (v627 : BitVec 32) (O : CellTallies nD τ sig Unit) (W : Waits sig Unit) (Q : (PUnit) → sProp 𝕄) :
    iprop(copyRes m K rsS rsR c 1 9
      ∗ ((chunk accM (fwd c 9) 1).view.loc (c : Thread nD τ) ↦[(chunk accM (fwd c 9) 1).view.set]{fullShare} (chunk accM (fwd c 9) 1).view.rep (sent m c (fwd c 9) 1))
      ∗ (∃ f, ((slot 1 9).view.loc (fwd c 9 : Thread nD τ) ↦[(slot 1 9).view.set]{fullShare} f))
      ∗ copyRes m K rsS rsR c 1 10
      ∗ ((chunk accM (fwd c 10) 1).view.loc (c : Thread nD τ) ↦[(chunk accM (fwd c 10) 1).view.set]{fullShare} (chunk accM (fwd c 10) 1).view.rep (sent m c (fwd c 10) 1))
      ∗ (∃ f, ((slot 1 10).view.loc (fwd c 10 : Thread nD τ) ↦[(slot 1 10).view.set]{fullShare} f))
      ∗ owes (c : Thread nD τ) (O + tallyAt (dmaCell (fwd c 10) rsR 1 10) () Nc + tallyAt (dmaCell (fwd c 9) rsR 1 9) () Nc) W
      ∗ (∀ r, (recvRes m K rsS c 1 9
        ∗ recvRes m K rsS c 1 10
        ∗ owes (c : Thread nD τ) (O) (W)) -∗ Q r))
      ⊢ wp frame (wpE (defs₀ (F := F)) 𝒱₀ c none) Set.univ (k0_part25 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v627) Q := by
  unfold copyRes
  iintro ⟨⟨#ISrsS1_9, TSrsS1_9, #RSrsS1_9, ASrsS1_9, #IDrsS1_9, TDrsS1_9, #RDrsS1_9⟩, SrcrsS1_9, ⟨%grsS1_9, DstrsS1_9⟩, ⟨#ISrsS1_10, TSrsS1_10, #RSrsS1_10, ASrsS1_10, #IDrsS1_10, TDrsS1_10, #RDrsS1_10⟩, SrcrsS1_10, ⟨%grsS1_10, DstrsS1_10⟩, HO, Hk⟩
  sl_exec_parts (disch := simp only [dev71_eq, dev72_eq])
  iapply (wp_send_rs m K c 1 9 (by decide) grsS1_9 (W) (O + tallyAt (dmaCell (fwd c 10) rsR 1 10) () Nc + tallyAt (dmaCell (fwd c 9) rsR 1 9) () Nc) (O + tallyAt (dmaCell (fwd c 10) rsR 1 10) () Nc) rfl) $$ [TSrsS1_9 TDrsS1_9 SrcrsS1_9 DstrsS1_9 HO]
  · isplitr; · iexact ISrsS1_9
    isplitr; · iexact IDrsS1_9
    isplitl [SrcrsS1_9]; · iexact SrcrsS1_9
    isplitl [DstrsS1_9]; · iexact DstrsS1_9
    isplitl [HO]; · iexact HO
    isplitl [TSrsS1_9]; · iexact TSrsS1_9
    isplitr; · iexact RSrsS1_9
    isplitl [TDrsS1_9]; · iexact TDrsS1_9
    iexact RDrsS1_9
  iintro ⟨CSrsS1_9, HO⟩
  sl_exec_parts (disch := simp only [dev71_eq, dev72_eq])
  iapply (wp_send_rs m K c 1 10 (by decide) grsS1_10 (W) (O + tallyAt (dmaCell (fwd c 10) rsR 1 10) () Nc) (O) rfl) $$ [TSrsS1_10 TDrsS1_10 SrcrsS1_10 DstrsS1_10 HO]
  · isplitr; · iexact ISrsS1_10
    isplitr; · iexact IDrsS1_10
    isplitl [SrcrsS1_10]; · iexact SrcrsS1_10
    isplitl [DstrsS1_10]; · iexact DstrsS1_10
    isplitl [HO]; · iexact HO
    isplitl [TSrsS1_10]; · iexact TSrsS1_10
    isplitr; · iexact RSrsS1_10
    isplitl [TDrsS1_10]; · iexact TDrsS1_10
    iexact RDrsS1_10
  iintro ⟨CSrsS1_10, HO⟩
  sl_exec_parts (disch := simp only [dev71_eq, dev72_eq])
  sl_step
  iapply Hk
  isplitl [ASrsS1_9 CSrsS1_9]
  · (try unfold recvRes)
    isplitr; · iexact ISrsS1_9
    isplitl [ASrsS1_9]; · iexact ASrsS1_9
    iexact CSrsS1_9
  isplitl [ASrsS1_10 CSrsS1_10]
  · (try unfold recvRes)
    isplitr; · iexact ISrsS1_10
    isplitl [ASrsS1_10]; · iexact ASrsS1_10
    iexact CSrsS1_10
  iexact HO

attribute [local sl_rounds] duties_dma amount_dma expect_dma in
set_option maxHeartbeats 4000000 in
theorem part26_spec (c : Dev nD) (v2 : BitVec 32) (O : CellTallies nD τ sig Unit) (W : Waits sig Unit) (Q : (PUnit) → sProp 𝕄) :
    iprop(copyRes m K rsS rsR c 1 11
      ∗ ((chunk accM (fwd c 11) 1).view.loc (c : Thread nD τ) ↦[(chunk accM (fwd c 11) 1).view.set]{fullShare} (chunk accM (fwd c 11) 1).view.rep (sent m c (fwd c 11) 1))
      ∗ (∃ f, ((slot 1 11).view.loc (fwd c 11 : Thread nD τ) ↦[(slot 1 11).view.set]{fullShare} f))
      ∗ copyRes m K rsS rsR c 1 12
      ∗ ((chunk accM (fwd c 12) 1).view.loc (c : Thread nD τ) ↦[(chunk accM (fwd c 12) 1).view.set]{fullShare} (chunk accM (fwd c 12) 1).view.rep (sent m c (fwd c 12) 1))
      ∗ (∃ f, ((slot 1 12).view.loc (fwd c 12 : Thread nD τ) ↦[(slot 1 12).view.set]{fullShare} f))
      ∗ owes (c : Thread nD τ) (O + tallyAt (dmaCell (fwd c 12) rsR 1 12) () Nc + tallyAt (dmaCell (fwd c 11) rsR 1 11) () Nc) W
      ∗ (∀ r, (recvRes m K rsS c 1 11
        ∗ recvRes m K rsS c 1 12
        ∗ owes (c : Thread nD τ) (O) (W)) -∗ Q r))
      ⊢ wp frame (wpE (defs₀ (F := F)) 𝒱₀ c none) Set.univ (k0_part26 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS1_11, TSrsS1_11, #RSrsS1_11, ASrsS1_11, #IDrsS1_11, TDrsS1_11, #RDrsS1_11⟩, SrcrsS1_11, ⟨%grsS1_11, DstrsS1_11⟩, ⟨#ISrsS1_12, TSrsS1_12, #RSrsS1_12, ASrsS1_12, #IDrsS1_12, TDrsS1_12, #RDrsS1_12⟩, SrcrsS1_12, ⟨%grsS1_12, DstrsS1_12⟩, HO, Hk⟩
  sl_exec_parts (disch := simp only [dev73_eq, dev74_eq])
  iapply (wp_send_rs m K c 1 11 (by decide) grsS1_11 (W) (O + tallyAt (dmaCell (fwd c 12) rsR 1 12) () Nc + tallyAt (dmaCell (fwd c 11) rsR 1 11) () Nc) (O + tallyAt (dmaCell (fwd c 12) rsR 1 12) () Nc) rfl) $$ [TSrsS1_11 TDrsS1_11 SrcrsS1_11 DstrsS1_11 HO]
  · isplitr; · iexact ISrsS1_11
    isplitr; · iexact IDrsS1_11
    isplitl [SrcrsS1_11]; · iexact SrcrsS1_11
    isplitl [DstrsS1_11]; · iexact DstrsS1_11
    isplitl [HO]; · iexact HO
    isplitl [TSrsS1_11]; · iexact TSrsS1_11
    isplitr; · iexact RSrsS1_11
    isplitl [TDrsS1_11]; · iexact TDrsS1_11
    iexact RDrsS1_11
  iintro ⟨CSrsS1_11, HO⟩
  sl_exec_parts (disch := simp only [dev73_eq, dev74_eq])
  iapply (wp_send_rs m K c 1 12 (by decide) grsS1_12 (W) (O + tallyAt (dmaCell (fwd c 12) rsR 1 12) () Nc) (O) rfl) $$ [TSrsS1_12 TDrsS1_12 SrcrsS1_12 DstrsS1_12 HO]
  · isplitr; · iexact ISrsS1_12
    isplitr; · iexact IDrsS1_12
    isplitl [SrcrsS1_12]; · iexact SrcrsS1_12
    isplitl [DstrsS1_12]; · iexact DstrsS1_12
    isplitl [HO]; · iexact HO
    isplitl [TSrsS1_12]; · iexact TSrsS1_12
    isplitr; · iexact RSrsS1_12
    isplitl [TDrsS1_12]; · iexact TDrsS1_12
    iexact RDrsS1_12
  iintro ⟨CSrsS1_12, HO⟩
  sl_exec_parts (disch := simp only [dev73_eq, dev74_eq])
  sl_step
  iapply Hk
  isplitl [ASrsS1_11 CSrsS1_11]
  · (try unfold recvRes)
    isplitr; · iexact ISrsS1_11
    isplitl [ASrsS1_11]; · iexact ASrsS1_11
    iexact CSrsS1_11
  isplitl [ASrsS1_12 CSrsS1_12]
  · (try unfold recvRes)
    isplitr; · iexact ISrsS1_12
    isplitl [ASrsS1_12]; · iexact ASrsS1_12
    iexact CSrsS1_12
  iexact HO

attribute [local sl_rounds] duties_dma amount_dma expect_dma in
set_option maxHeartbeats 4000000 in
theorem part27_spec (c : Dev nD) (v2 : BitVec 32) (O : CellTallies nD τ sig Unit) (W : Waits sig Unit) (Q : (BitVec 32) → sProp 𝕄) :
    iprop(copyRes m K rsS rsR c 1 13
      ∗ ((chunk accM (fwd c 13) 1).view.loc (c : Thread nD τ) ↦[(chunk accM (fwd c 13) 1).view.set]{fullShare} (chunk accM (fwd c 13) 1).view.rep (sent m c (fwd c 13) 1))
      ∗ (∃ f, ((slot 1 13).view.loc (fwd c 13 : Thread nD τ) ↦[(slot 1 13).view.set]{fullShare} f))
      ∗ copyRes m K rsS rsR c 1 14
      ∗ ((chunk accM (fwd c 14) 1).view.loc (c : Thread nD τ) ↦[(chunk accM (fwd c 14) 1).view.set]{fullShare} (chunk accM (fwd c 14) 1).view.rep (sent m c (fwd c 14) 1))
      ∗ (∃ f, ((slot 1 14).view.loc (fwd c 14 : Thread nD τ) ↦[(slot 1 14).view.set]{fullShare} f))
      ∗ copyRes m K rsS rsR c 1 15
      ∗ ((chunk accM (fwd c 15) 1).view.loc (c : Thread nD τ) ↦[(chunk accM (fwd c 15) 1).view.set]{fullShare} (chunk accM (fwd c 15) 1).view.rep (sent m c (fwd c 15) 1))
      ∗ (∃ f, ((slot 1 15).view.loc (fwd c 15 : Thread nD τ) ↦[(slot 1 15).view.set]{fullShare} f))
      ∗ owes (c : Thread nD τ) (O + tallyAt (dmaCell (fwd c 15) rsR 1 15) () Nc + tallyAt (dmaCell (fwd c 14) rsR 1 14) () Nc + tallyAt (dmaCell (fwd c 13) rsR 1 13) () Nc) W
      ∗ (∀ r, (recvRes m K rsS c 1 13
        ∗ recvRes m K rsS c 1 14
        ∗ recvRes m K rsS c 1 15
        ∗ owes (c : Thread nD τ) (O) (W)) -∗ Q r))
      ⊢ wp frame (wpE (defs₀ (F := F)) 𝒱₀ c none) Set.univ (k0_part27 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS1_13, TSrsS1_13, #RSrsS1_13, ASrsS1_13, #IDrsS1_13, TDrsS1_13, #RDrsS1_13⟩, SrcrsS1_13, ⟨%grsS1_13, DstrsS1_13⟩, ⟨#ISrsS1_14, TSrsS1_14, #RSrsS1_14, ASrsS1_14, #IDrsS1_14, TDrsS1_14, #RDrsS1_14⟩, SrcrsS1_14, ⟨%grsS1_14, DstrsS1_14⟩, ⟨#ISrsS1_15, TSrsS1_15, #RSrsS1_15, ASrsS1_15, #IDrsS1_15, TDrsS1_15, #RDrsS1_15⟩, SrcrsS1_15, ⟨%grsS1_15, DstrsS1_15⟩, HO, Hk⟩
  sl_exec_parts (disch := simp only [dev75_eq, dev76_eq, dev77_eq])
  iapply (wp_send_rs m K c 1 13 (by decide) grsS1_13 (W) (O + tallyAt (dmaCell (fwd c 15) rsR 1 15) () Nc + tallyAt (dmaCell (fwd c 14) rsR 1 14) () Nc + tallyAt (dmaCell (fwd c 13) rsR 1 13) () Nc) (O + tallyAt (dmaCell (fwd c 15) rsR 1 15) () Nc + tallyAt (dmaCell (fwd c 14) rsR 1 14) () Nc) rfl) $$ [TSrsS1_13 TDrsS1_13 SrcrsS1_13 DstrsS1_13 HO]
  · isplitr; · iexact ISrsS1_13
    isplitr; · iexact IDrsS1_13
    isplitl [SrcrsS1_13]; · iexact SrcrsS1_13
    isplitl [DstrsS1_13]; · iexact DstrsS1_13
    isplitl [HO]; · iexact HO
    isplitl [TSrsS1_13]; · iexact TSrsS1_13
    isplitr; · iexact RSrsS1_13
    isplitl [TDrsS1_13]; · iexact TDrsS1_13
    iexact RDrsS1_13
  iintro ⟨CSrsS1_13, HO⟩
  sl_exec_parts (disch := simp only [dev75_eq, dev76_eq, dev77_eq])
  iapply (wp_send_rs m K c 1 14 (by decide) grsS1_14 (W) (O + tallyAt (dmaCell (fwd c 15) rsR 1 15) () Nc + tallyAt (dmaCell (fwd c 14) rsR 1 14) () Nc) (O + tallyAt (dmaCell (fwd c 15) rsR 1 15) () Nc) rfl) $$ [TSrsS1_14 TDrsS1_14 SrcrsS1_14 DstrsS1_14 HO]
  · isplitr; · iexact ISrsS1_14
    isplitr; · iexact IDrsS1_14
    isplitl [SrcrsS1_14]; · iexact SrcrsS1_14
    isplitl [DstrsS1_14]; · iexact DstrsS1_14
    isplitl [HO]; · iexact HO
    isplitl [TSrsS1_14]; · iexact TSrsS1_14
    isplitr; · iexact RSrsS1_14
    isplitl [TDrsS1_14]; · iexact TDrsS1_14
    iexact RDrsS1_14
  iintro ⟨CSrsS1_14, HO⟩
  sl_exec_parts (disch := simp only [dev75_eq, dev76_eq, dev77_eq])
  iapply (wp_send_rs m K c 1 15 (by decide) grsS1_15 (W) (O + tallyAt (dmaCell (fwd c 15) rsR 1 15) () Nc) (O) rfl) $$ [TSrsS1_15 TDrsS1_15 SrcrsS1_15 DstrsS1_15 HO]
  · isplitr; · iexact ISrsS1_15
    isplitr; · iexact IDrsS1_15
    isplitl [SrcrsS1_15]; · iexact SrcrsS1_15
    isplitl [DstrsS1_15]; · iexact DstrsS1_15
    isplitl [HO]; · iexact HO
    isplitl [TSrsS1_15]; · iexact TSrsS1_15
    isplitr; · iexact RSrsS1_15
    isplitl [TDrsS1_15]; · iexact TDrsS1_15
    iexact RDrsS1_15
  iintro ⟨CSrsS1_15, HO⟩
  sl_exec_parts (disch := simp only [dev75_eq, dev76_eq, dev77_eq])
  sl_step
  iapply Hk
  isplitl [ASrsS1_13 CSrsS1_13]
  · (try unfold recvRes)
    isplitr; · iexact ISrsS1_13
    isplitl [ASrsS1_13]; · iexact ASrsS1_13
    iexact CSrsS1_13
  isplitl [ASrsS1_14 CSrsS1_14]
  · (try unfold recvRes)
    isplitr; · iexact ISrsS1_14
    isplitl [ASrsS1_14]; · iexact ASrsS1_14
    iexact CSrsS1_14
  isplitl [ASrsS1_15 CSrsS1_15]
  · (try unfold recvRes)
    isplitr; · iexact ISrsS1_15
    isplitl [ASrsS1_15]; · iexact ASrsS1_15
    iexact CSrsS1_15
  iexact HO

attribute [local sl_rounds] duties_dma amount_dma expect_dma in
set_option maxHeartbeats 4000000 in
theorem part28_spec (c : Dev nD) (v2 : BitVec 32) (v710 : BitVec 32) (O : CellTallies nD τ sig Unit) (W : Waits sig Unit) (Q : (BitVec 32) → sProp 𝕄) :
    iprop(copyRes m K rsS rsR c 1 16
      ∗ ((chunk accM (fwd c 16) 1).view.loc (c : Thread nD τ) ↦[(chunk accM (fwd c 16) 1).view.set]{fullShare} (chunk accM (fwd c 16) 1).view.rep (sent m c (fwd c 16) 1))
      ∗ (∃ f, ((slot 1 16).view.loc (fwd c 16 : Thread nD τ) ↦[(slot 1 16).view.set]{fullShare} f))
      ∗ copyRes m K rsS rsR c 1 17
      ∗ ((chunk accM (fwd c 17) 1).view.loc (c : Thread nD τ) ↦[(chunk accM (fwd c 17) 1).view.set]{fullShare} (chunk accM (fwd c 17) 1).view.rep (sent m c (fwd c 17) 1))
      ∗ (∃ f, ((slot 1 17).view.loc (fwd c 17 : Thread nD τ) ↦[(slot 1 17).view.set]{fullShare} f))
      ∗ owes (c : Thread nD τ) (O + tallyAt (dmaCell (fwd c 17) rsR 1 17) () Nc + tallyAt (dmaCell (fwd c 16) rsR 1 16) () Nc) W
      ∗ (∀ r, (recvRes m K rsS c 1 16
        ∗ recvRes m K rsS c 1 17
        ∗ owes (c : Thread nD τ) (O) (W)) -∗ Q r))
      ⊢ wp frame (wpE (defs₀ (F := F)) 𝒱₀ c none) Set.univ (k0_part28 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v710) Q := by
  unfold copyRes
  iintro ⟨⟨#ISrsS1_16, TSrsS1_16, #RSrsS1_16, ASrsS1_16, #IDrsS1_16, TDrsS1_16, #RDrsS1_16⟩, SrcrsS1_16, ⟨%grsS1_16, DstrsS1_16⟩, ⟨#ISrsS1_17, TSrsS1_17, #RSrsS1_17, ASrsS1_17, #IDrsS1_17, TDrsS1_17, #RDrsS1_17⟩, SrcrsS1_17, ⟨%grsS1_17, DstrsS1_17⟩, HO, Hk⟩
  sl_exec_parts (disch := simp only [dev78_eq, dev79_eq])
  iapply (wp_send_rs m K c 1 16 (by decide) grsS1_16 (W) (O + tallyAt (dmaCell (fwd c 17) rsR 1 17) () Nc + tallyAt (dmaCell (fwd c 16) rsR 1 16) () Nc) (O + tallyAt (dmaCell (fwd c 17) rsR 1 17) () Nc) rfl) $$ [TSrsS1_16 TDrsS1_16 SrcrsS1_16 DstrsS1_16 HO]
  · isplitr; · iexact ISrsS1_16
    isplitr; · iexact IDrsS1_16
    isplitl [SrcrsS1_16]; · iexact SrcrsS1_16
    isplitl [DstrsS1_16]; · iexact DstrsS1_16
    isplitl [HO]; · iexact HO
    isplitl [TSrsS1_16]; · iexact TSrsS1_16
    isplitr; · iexact RSrsS1_16
    isplitl [TDrsS1_16]; · iexact TDrsS1_16
    iexact RDrsS1_16
  iintro ⟨CSrsS1_16, HO⟩
  sl_exec_parts (disch := simp only [dev78_eq, dev79_eq])
  iapply (wp_send_rs m K c 1 17 (by decide) grsS1_17 (W) (O + tallyAt (dmaCell (fwd c 17) rsR 1 17) () Nc) (O) rfl) $$ [TSrsS1_17 TDrsS1_17 SrcrsS1_17 DstrsS1_17 HO]
  · isplitr; · iexact ISrsS1_17
    isplitr; · iexact IDrsS1_17
    isplitl [SrcrsS1_17]; · iexact SrcrsS1_17
    isplitl [DstrsS1_17]; · iexact DstrsS1_17
    isplitl [HO]; · iexact HO
    isplitl [TSrsS1_17]; · iexact TSrsS1_17
    isplitr; · iexact RSrsS1_17
    isplitl [TDrsS1_17]; · iexact TDrsS1_17
    iexact RDrsS1_17
  iintro ⟨CSrsS1_17, HO⟩
  sl_exec_parts (disch := simp only [dev78_eq, dev79_eq])
  sl_step
  iapply Hk
  isplitl [ASrsS1_16 CSrsS1_16]
  · (try unfold recvRes)
    isplitr; · iexact ISrsS1_16
    isplitl [ASrsS1_16]; · iexact ASrsS1_16
    iexact CSrsS1_16
  isplitl [ASrsS1_17 CSrsS1_17]
  · (try unfold recvRes)
    isplitr; · iexact ISrsS1_17
    isplitl [ASrsS1_17]; · iexact ASrsS1_17
    iexact CSrsS1_17
  iexact HO

attribute [local sl_rounds] duties_dma amount_dma expect_dma in
set_option maxHeartbeats 4000000 in
theorem part29_spec (c : Dev nD) (v2 : BitVec 32) (v735 : BitVec 32) (O : CellTallies nD τ sig Unit) (W : Waits sig Unit) (Q : (BitVec 32) → sProp 𝕄) :
    iprop(copyRes m K rsS rsR c 1 18
      ∗ ((chunk accM (fwd c 18) 1).view.loc (c : Thread nD τ) ↦[(chunk accM (fwd c 18) 1).view.set]{fullShare} (chunk accM (fwd c 18) 1).view.rep (sent m c (fwd c 18) 1))
      ∗ (∃ f, ((slot 1 18).view.loc (fwd c 18 : Thread nD τ) ↦[(slot 1 18).view.set]{fullShare} f))
      ∗ copyRes m K rsS rsR c 1 19
      ∗ ((chunk accM (fwd c 19) 1).view.loc (c : Thread nD τ) ↦[(chunk accM (fwd c 19) 1).view.set]{fullShare} (chunk accM (fwd c 19) 1).view.rep (sent m c (fwd c 19) 1))
      ∗ (∃ f, ((slot 1 19).view.loc (fwd c 19 : Thread nD τ) ↦[(slot 1 19).view.set]{fullShare} f))
      ∗ owes (c : Thread nD τ) (O + tallyAt (dmaCell (fwd c 19) rsR 1 19) () Nc + tallyAt (dmaCell (fwd c 18) rsR 1 18) () Nc) W
      ∗ (∀ r, (recvRes m K rsS c 1 18
        ∗ recvRes m K rsS c 1 19
        ∗ owes (c : Thread nD τ) (O) (W)) -∗ Q r))
      ⊢ wp frame (wpE (defs₀ (F := F)) 𝒱₀ c none) Set.univ (k0_part29 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v735) Q := by
  unfold copyRes
  iintro ⟨⟨#ISrsS1_18, TSrsS1_18, #RSrsS1_18, ASrsS1_18, #IDrsS1_18, TDrsS1_18, #RDrsS1_18⟩, SrcrsS1_18, ⟨%grsS1_18, DstrsS1_18⟩, ⟨#ISrsS1_19, TSrsS1_19, #RSrsS1_19, ASrsS1_19, #IDrsS1_19, TDrsS1_19, #RDrsS1_19⟩, SrcrsS1_19, ⟨%grsS1_19, DstrsS1_19⟩, HO, Hk⟩
  sl_exec_parts (disch := simp only [dev80_eq, dev81_eq])
  iapply (wp_send_rs m K c 1 18 (by decide) grsS1_18 (W) (O + tallyAt (dmaCell (fwd c 19) rsR 1 19) () Nc + tallyAt (dmaCell (fwd c 18) rsR 1 18) () Nc) (O + tallyAt (dmaCell (fwd c 19) rsR 1 19) () Nc) rfl) $$ [TSrsS1_18 TDrsS1_18 SrcrsS1_18 DstrsS1_18 HO]
  · isplitr; · iexact ISrsS1_18
    isplitr; · iexact IDrsS1_18
    isplitl [SrcrsS1_18]; · iexact SrcrsS1_18
    isplitl [DstrsS1_18]; · iexact DstrsS1_18
    isplitl [HO]; · iexact HO
    isplitl [TSrsS1_18]; · iexact TSrsS1_18
    isplitr; · iexact RSrsS1_18
    isplitl [TDrsS1_18]; · iexact TDrsS1_18
    iexact RDrsS1_18
  iintro ⟨CSrsS1_18, HO⟩
  sl_exec_parts (disch := simp only [dev80_eq, dev81_eq])
  iapply (wp_send_rs m K c 1 19 (by decide) grsS1_19 (W) (O + tallyAt (dmaCell (fwd c 19) rsR 1 19) () Nc) (O) rfl) $$ [TSrsS1_19 TDrsS1_19 SrcrsS1_19 DstrsS1_19 HO]
  · isplitr; · iexact ISrsS1_19
    isplitr; · iexact IDrsS1_19
    isplitl [SrcrsS1_19]; · iexact SrcrsS1_19
    isplitl [DstrsS1_19]; · iexact DstrsS1_19
    isplitl [HO]; · iexact HO
    isplitl [TSrsS1_19]; · iexact TSrsS1_19
    isplitr; · iexact RSrsS1_19
    isplitl [TDrsS1_19]; · iexact TDrsS1_19
    iexact RDrsS1_19
  iintro ⟨CSrsS1_19, HO⟩
  sl_exec_parts (disch := simp only [dev80_eq, dev81_eq])
  sl_step
  iapply Hk
  isplitl [ASrsS1_18 CSrsS1_18]
  · (try unfold recvRes)
    isplitr; · iexact ISrsS1_18
    isplitl [ASrsS1_18]; · iexact ASrsS1_18
    iexact CSrsS1_18
  isplitl [ASrsS1_19 CSrsS1_19]
  · (try unfold recvRes)
    isplitr; · iexact ISrsS1_19
    isplitl [ASrsS1_19]; · iexact ASrsS1_19
    iexact CSrsS1_19
  iexact HO

attribute [local sl_rounds] duties_dma amount_dma expect_dma in
set_option maxHeartbeats 4000000 in
theorem part30_spec (c : Dev nD) (v2 : BitVec 32) (v761 : BitVec 32) (O : CellTallies nD τ sig Unit) (W : Waits sig Unit) (Q : (PUnit) → sProp 𝕄) :
    iprop(copyRes m K rsS rsR c 1 20
      ∗ ((chunk accM (fwd c 20) 1).view.loc (c : Thread nD τ) ↦[(chunk accM (fwd c 20) 1).view.set]{fullShare} (chunk accM (fwd c 20) 1).view.rep (sent m c (fwd c 20) 1))
      ∗ (∃ f, ((slot 1 20).view.loc (fwd c 20 : Thread nD τ) ↦[(slot 1 20).view.set]{fullShare} f))
      ∗ copyRes m K rsS rsR c 1 21
      ∗ ((chunk accM (fwd c 21) 1).view.loc (c : Thread nD τ) ↦[(chunk accM (fwd c 21) 1).view.set]{fullShare} (chunk accM (fwd c 21) 1).view.rep (sent m c (fwd c 21) 1))
      ∗ (∃ f, ((slot 1 21).view.loc (fwd c 21 : Thread nD τ) ↦[(slot 1 21).view.set]{fullShare} f))
      ∗ owes (c : Thread nD τ) (O + tallyAt (dmaCell (fwd c 21) rsR 1 21) () Nc + tallyAt (dmaCell (fwd c 20) rsR 1 20) () Nc) W
      ∗ (∀ r, (recvRes m K rsS c 1 20
        ∗ recvRes m K rsS c 1 21
        ∗ owes (c : Thread nD τ) (O) (W)) -∗ Q r))
      ⊢ wp frame (wpE (defs₀ (F := F)) 𝒱₀ c none) Set.univ (k0_part30 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v761) Q := by
  unfold copyRes
  iintro ⟨⟨#ISrsS1_20, TSrsS1_20, #RSrsS1_20, ASrsS1_20, #IDrsS1_20, TDrsS1_20, #RDrsS1_20⟩, SrcrsS1_20, ⟨%grsS1_20, DstrsS1_20⟩, ⟨#ISrsS1_21, TSrsS1_21, #RSrsS1_21, ASrsS1_21, #IDrsS1_21, TDrsS1_21, #RDrsS1_21⟩, SrcrsS1_21, ⟨%grsS1_21, DstrsS1_21⟩, HO, Hk⟩
  sl_exec_parts (disch := simp only [dev82_eq, dev83_eq])
  iapply (wp_send_rs m K c 1 20 (by decide) grsS1_20 (W) (O + tallyAt (dmaCell (fwd c 21) rsR 1 21) () Nc + tallyAt (dmaCell (fwd c 20) rsR 1 20) () Nc) (O + tallyAt (dmaCell (fwd c 21) rsR 1 21) () Nc) rfl) $$ [TSrsS1_20 TDrsS1_20 SrcrsS1_20 DstrsS1_20 HO]
  · isplitr; · iexact ISrsS1_20
    isplitr; · iexact IDrsS1_20
    isplitl [SrcrsS1_20]; · iexact SrcrsS1_20
    isplitl [DstrsS1_20]; · iexact DstrsS1_20
    isplitl [HO]; · iexact HO
    isplitl [TSrsS1_20]; · iexact TSrsS1_20
    isplitr; · iexact RSrsS1_20
    isplitl [TDrsS1_20]; · iexact TDrsS1_20
    iexact RDrsS1_20
  iintro ⟨CSrsS1_20, HO⟩
  sl_exec_parts (disch := simp only [dev82_eq, dev83_eq])
  iapply (wp_send_rs m K c 1 21 (by decide) grsS1_21 (W) (O + tallyAt (dmaCell (fwd c 21) rsR 1 21) () Nc) (O) rfl) $$ [TSrsS1_21 TDrsS1_21 SrcrsS1_21 DstrsS1_21 HO]
  · isplitr; · iexact ISrsS1_21
    isplitr; · iexact IDrsS1_21
    isplitl [SrcrsS1_21]; · iexact SrcrsS1_21
    isplitl [DstrsS1_21]; · iexact DstrsS1_21
    isplitl [HO]; · iexact HO
    isplitl [TSrsS1_21]; · iexact TSrsS1_21
    isplitr; · iexact RSrsS1_21
    isplitl [TDrsS1_21]; · iexact TDrsS1_21
    iexact RDrsS1_21
  iintro ⟨CSrsS1_21, HO⟩
  sl_exec_parts (disch := simp only [dev82_eq, dev83_eq])
  sl_step
  iapply Hk
  isplitl [ASrsS1_20 CSrsS1_20]
  · (try unfold recvRes)
    isplitr; · iexact ISrsS1_20
    isplitl [ASrsS1_20]; · iexact ASrsS1_20
    iexact CSrsS1_20
  isplitl [ASrsS1_21 CSrsS1_21]
  · (try unfold recvRes)
    isplitr; · iexact ISrsS1_21
    isplitl [ASrsS1_21]; · iexact ASrsS1_21
    iexact CSrsS1_21
  iexact HO

attribute [local sl_rounds] duties_dma amount_dma expect_dma in
set_option maxHeartbeats 4000000 in
theorem part31_spec (c : Dev nD) (v2 : BitVec 32) (O : CellTallies nD τ sig Unit) (W : Waits sig Unit) (Q : (PUnit) → sProp 𝕄) :
    iprop(copyRes m K rsS rsR c 1 22
      ∗ ((chunk accM (fwd c 22) 1).view.loc (c : Thread nD τ) ↦[(chunk accM (fwd c 22) 1).view.set]{fullShare} (chunk accM (fwd c 22) 1).view.rep (sent m c (fwd c 22) 1))
      ∗ (∃ f, ((slot 1 22).view.loc (fwd c 22 : Thread nD τ) ↦[(slot 1 22).view.set]{fullShare} f))
      ∗ copyRes m K rsS rsR c 1 23
      ∗ ((chunk accM (fwd c 23) 1).view.loc (c : Thread nD τ) ↦[(chunk accM (fwd c 23) 1).view.set]{fullShare} (chunk accM (fwd c 23) 1).view.rep (sent m c (fwd c 23) 1))
      ∗ (∃ f, ((slot 1 23).view.loc (fwd c 23 : Thread nD τ) ↦[(slot 1 23).view.set]{fullShare} f))
      ∗ owes (c : Thread nD τ) (O + tallyAt (dmaCell (fwd c 23) rsR 1 23) () Nc + tallyAt (dmaCell (fwd c 22) rsR 1 22) () Nc) W
      ∗ (∀ r, (recvRes m K rsS c 1 22
        ∗ recvRes m K rsS c 1 23
        ∗ owes (c : Thread nD τ) (O) (W)) -∗ Q r))
      ⊢ wp frame (wpE (defs₀ (F := F)) 𝒱₀ c none) Set.univ (k0_part31 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS1_22, TSrsS1_22, #RSrsS1_22, ASrsS1_22, #IDrsS1_22, TDrsS1_22, #RDrsS1_22⟩, SrcrsS1_22, ⟨%grsS1_22, DstrsS1_22⟩, ⟨#ISrsS1_23, TSrsS1_23, #RSrsS1_23, ASrsS1_23, #IDrsS1_23, TDrsS1_23, #RDrsS1_23⟩, SrcrsS1_23, ⟨%grsS1_23, DstrsS1_23⟩, HO, Hk⟩
  sl_exec_parts (disch := simp only [dev84_eq, dev85_eq])
  iapply (wp_send_rs m K c 1 22 (by decide) grsS1_22 (W) (O + tallyAt (dmaCell (fwd c 23) rsR 1 23) () Nc + tallyAt (dmaCell (fwd c 22) rsR 1 22) () Nc) (O + tallyAt (dmaCell (fwd c 23) rsR 1 23) () Nc) rfl) $$ [TSrsS1_22 TDrsS1_22 SrcrsS1_22 DstrsS1_22 HO]
  · isplitr; · iexact ISrsS1_22
    isplitr; · iexact IDrsS1_22
    isplitl [SrcrsS1_22]; · iexact SrcrsS1_22
    isplitl [DstrsS1_22]; · iexact DstrsS1_22
    isplitl [HO]; · iexact HO
    isplitl [TSrsS1_22]; · iexact TSrsS1_22
    isplitr; · iexact RSrsS1_22
    isplitl [TDrsS1_22]; · iexact TDrsS1_22
    iexact RDrsS1_22
  iintro ⟨CSrsS1_22, HO⟩
  sl_exec_parts (disch := simp only [dev84_eq, dev85_eq])
  iapply (wp_send_rs m K c 1 23 (by decide) grsS1_23 (W) (O + tallyAt (dmaCell (fwd c 23) rsR 1 23) () Nc) (O) rfl) $$ [TSrsS1_23 TDrsS1_23 SrcrsS1_23 DstrsS1_23 HO]
  · isplitr; · iexact ISrsS1_23
    isplitr; · iexact IDrsS1_23
    isplitl [SrcrsS1_23]; · iexact SrcrsS1_23
    isplitl [DstrsS1_23]; · iexact DstrsS1_23
    isplitl [HO]; · iexact HO
    isplitl [TSrsS1_23]; · iexact TSrsS1_23
    isplitr; · iexact RSrsS1_23
    isplitl [TDrsS1_23]; · iexact TDrsS1_23
    iexact RDrsS1_23
  iintro ⟨CSrsS1_23, HO⟩
  sl_exec_parts (disch := simp only [dev84_eq, dev85_eq])
  sl_step
  iapply Hk
  isplitl [ASrsS1_22 CSrsS1_22]
  · (try unfold recvRes)
    isplitr; · iexact ISrsS1_22
    isplitl [ASrsS1_22]; · iexact ASrsS1_22
    iexact CSrsS1_22
  isplitl [ASrsS1_23 CSrsS1_23]
  · (try unfold recvRes)
    isplitr; · iexact ISrsS1_23
    isplitl [ASrsS1_23]; · iexact ASrsS1_23
    iexact CSrsS1_23
  iexact HO

attribute [local sl_rounds] duties_dma amount_dma expect_dma in
set_option maxHeartbeats 4000000 in
theorem part32_spec (c : Dev nD) (v2 : BitVec 32) (O : CellTallies nD τ sig Unit) (W : Waits sig Unit) (Q : (Σ' (v843 : BitVec 32), BitVec 32) → sProp 𝕄) :
    iprop(copyRes m K rsS rsR c 1 24
      ∗ ((chunk accM (fwd c 24) 1).view.loc (c : Thread nD τ) ↦[(chunk accM (fwd c 24) 1).view.set]{fullShare} (chunk accM (fwd c 24) 1).view.rep (sent m c (fwd c 24) 1))
      ∗ (∃ f, ((slot 1 24).view.loc (fwd c 24 : Thread nD τ) ↦[(slot 1 24).view.set]{fullShare} f))
      ∗ copyRes m K rsS rsR c 1 25
      ∗ ((chunk accM (fwd c 25) 1).view.loc (c : Thread nD τ) ↦[(chunk accM (fwd c 25) 1).view.set]{fullShare} (chunk accM (fwd c 25) 1).view.rep (sent m c (fwd c 25) 1))
      ∗ (∃ f, ((slot 1 25).view.loc (fwd c 25 : Thread nD τ) ↦[(slot 1 25).view.set]{fullShare} f))
      ∗ copyRes m K rsS rsR c 1 26
      ∗ ((chunk accM (fwd c 26) 1).view.loc (c : Thread nD τ) ↦[(chunk accM (fwd c 26) 1).view.set]{fullShare} (chunk accM (fwd c 26) 1).view.rep (sent m c (fwd c 26) 1))
      ∗ (∃ f, ((slot 1 26).view.loc (fwd c 26 : Thread nD τ) ↦[(slot 1 26).view.set]{fullShare} f))
      ∗ owes (c : Thread nD τ) (O + tallyAt (dmaCell (fwd c 26) rsR 1 26) () Nc + tallyAt (dmaCell (fwd c 25) rsR 1 25) () Nc + tallyAt (dmaCell (fwd c 24) rsR 1 24) () Nc) W
      ∗ (∀ r, (recvRes m K rsS c 1 24
        ∗ recvRes m K rsS c 1 25
        ∗ recvRes m K rsS c 1 26
        ∗ owes (c : Thread nD τ) (O) (W)) -∗ Q r))
      ⊢ wp frame (wpE (defs₀ (F := F)) 𝒱₀ c none) Set.univ (k0_part32 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS1_24, TSrsS1_24, #RSrsS1_24, ASrsS1_24, #IDrsS1_24, TDrsS1_24, #RDrsS1_24⟩, SrcrsS1_24, ⟨%grsS1_24, DstrsS1_24⟩, ⟨#ISrsS1_25, TSrsS1_25, #RSrsS1_25, ASrsS1_25, #IDrsS1_25, TDrsS1_25, #RDrsS1_25⟩, SrcrsS1_25, ⟨%grsS1_25, DstrsS1_25⟩, ⟨#ISrsS1_26, TSrsS1_26, #RSrsS1_26, ASrsS1_26, #IDrsS1_26, TDrsS1_26, #RDrsS1_26⟩, SrcrsS1_26, ⟨%grsS1_26, DstrsS1_26⟩, HO, Hk⟩
  sl_exec_parts (disch := simp only [dev86_eq, dev87_eq, dev88_eq])
  iapply (wp_send_rs m K c 1 24 (by decide) grsS1_24 (W) (O + tallyAt (dmaCell (fwd c 26) rsR 1 26) () Nc + tallyAt (dmaCell (fwd c 25) rsR 1 25) () Nc + tallyAt (dmaCell (fwd c 24) rsR 1 24) () Nc) (O + tallyAt (dmaCell (fwd c 26) rsR 1 26) () Nc + tallyAt (dmaCell (fwd c 25) rsR 1 25) () Nc) rfl) $$ [TSrsS1_24 TDrsS1_24 SrcrsS1_24 DstrsS1_24 HO]
  · isplitr; · iexact ISrsS1_24
    isplitr; · iexact IDrsS1_24
    isplitl [SrcrsS1_24]; · iexact SrcrsS1_24
    isplitl [DstrsS1_24]; · iexact DstrsS1_24
    isplitl [HO]; · iexact HO
    isplitl [TSrsS1_24]; · iexact TSrsS1_24
    isplitr; · iexact RSrsS1_24
    isplitl [TDrsS1_24]; · iexact TDrsS1_24
    iexact RDrsS1_24
  iintro ⟨CSrsS1_24, HO⟩
  sl_exec_parts (disch := simp only [dev86_eq, dev87_eq, dev88_eq])
  iapply (wp_send_rs m K c 1 25 (by decide) grsS1_25 (W) (O + tallyAt (dmaCell (fwd c 26) rsR 1 26) () Nc + tallyAt (dmaCell (fwd c 25) rsR 1 25) () Nc) (O + tallyAt (dmaCell (fwd c 26) rsR 1 26) () Nc) rfl) $$ [TSrsS1_25 TDrsS1_25 SrcrsS1_25 DstrsS1_25 HO]
  · isplitr; · iexact ISrsS1_25
    isplitr; · iexact IDrsS1_25
    isplitl [SrcrsS1_25]; · iexact SrcrsS1_25
    isplitl [DstrsS1_25]; · iexact DstrsS1_25
    isplitl [HO]; · iexact HO
    isplitl [TSrsS1_25]; · iexact TSrsS1_25
    isplitr; · iexact RSrsS1_25
    isplitl [TDrsS1_25]; · iexact TDrsS1_25
    iexact RDrsS1_25
  iintro ⟨CSrsS1_25, HO⟩
  sl_exec_parts (disch := simp only [dev86_eq, dev87_eq, dev88_eq])
  iapply (wp_send_rs m K c 1 26 (by decide) grsS1_26 (W) (O + tallyAt (dmaCell (fwd c 26) rsR 1 26) () Nc) (O) rfl) $$ [TSrsS1_26 TDrsS1_26 SrcrsS1_26 DstrsS1_26 HO]
  · isplitr; · iexact ISrsS1_26
    isplitr; · iexact IDrsS1_26
    isplitl [SrcrsS1_26]; · iexact SrcrsS1_26
    isplitl [DstrsS1_26]; · iexact DstrsS1_26
    isplitl [HO]; · iexact HO
    isplitl [TSrsS1_26]; · iexact TSrsS1_26
    isplitr; · iexact RSrsS1_26
    isplitl [TDrsS1_26]; · iexact TDrsS1_26
    iexact RDrsS1_26
  iintro ⟨CSrsS1_26, HO⟩
  sl_exec_parts (disch := simp only [dev86_eq, dev87_eq, dev88_eq])
  sl_step
  iapply Hk
  isplitl [ASrsS1_24 CSrsS1_24]
  · (try unfold recvRes)
    isplitr; · iexact ISrsS1_24
    isplitl [ASrsS1_24]; · iexact ASrsS1_24
    iexact CSrsS1_24
  isplitl [ASrsS1_25 CSrsS1_25]
  · (try unfold recvRes)
    isplitr; · iexact ISrsS1_25
    isplitl [ASrsS1_25]; · iexact ASrsS1_25
    iexact CSrsS1_25
  isplitl [ASrsS1_26 CSrsS1_26]
  · (try unfold recvRes)
    isplitr; · iexact ISrsS1_26
    isplitl [ASrsS1_26]; · iexact ASrsS1_26
    iexact CSrsS1_26
  iexact HO

attribute [local sl_rounds] duties_dma amount_dma expect_dma in
set_option maxHeartbeats 4000000 in
theorem part33_spec (c : Dev nD) (v2 : BitVec 32) (v843 : BitVec 32) (c32_i32_942 : BitVec 32) (O : CellTallies nD τ sig Unit) (W : Waits sig Unit) (Q : (BitVec 32) → sProp 𝕄) :
    iprop(copyRes m K rsS rsR c 1 27
      ∗ ((chunk accM (fwd c 27) 1).view.loc (c : Thread nD τ) ↦[(chunk accM (fwd c 27) 1).view.set]{fullShare} (chunk accM (fwd c 27) 1).view.rep (sent m c (fwd c 27) 1))
      ∗ (∃ f, ((slot 1 27).view.loc (fwd c 27 : Thread nD τ) ↦[(slot 1 27).view.set]{fullShare} f))
      ∗ copyRes m K rsS rsR c 1 28
      ∗ ((chunk accM (fwd c 28) 1).view.loc (c : Thread nD τ) ↦[(chunk accM (fwd c 28) 1).view.set]{fullShare} (chunk accM (fwd c 28) 1).view.rep (sent m c (fwd c 28) 1))
      ∗ (∃ f, ((slot 1 28).view.loc (fwd c 28 : Thread nD τ) ↦[(slot 1 28).view.set]{fullShare} f))
      ∗ owes (c : Thread nD τ) (O + tallyAt (dmaCell (fwd c 28) rsR 1 28) () Nc + tallyAt (dmaCell (fwd c 27) rsR 1 27) () Nc) W
      ∗ (∀ r, (recvRes m K rsS c 1 27
        ∗ recvRes m K rsS c 1 28
        ∗ owes (c : Thread nD τ) (O) (W)) -∗ Q r))
      ⊢ wp frame (wpE (defs₀ (F := F)) 𝒱₀ c none) Set.univ (k0_part33 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v843 c32_i32_942) Q := by
  unfold copyRes
  iintro ⟨⟨#ISrsS1_27, TSrsS1_27, #RSrsS1_27, ASrsS1_27, #IDrsS1_27, TDrsS1_27, #RDrsS1_27⟩, SrcrsS1_27, ⟨%grsS1_27, DstrsS1_27⟩, ⟨#ISrsS1_28, TSrsS1_28, #RSrsS1_28, ASrsS1_28, #IDrsS1_28, TDrsS1_28, #RDrsS1_28⟩, SrcrsS1_28, ⟨%grsS1_28, DstrsS1_28⟩, HO, Hk⟩
  sl_exec_parts (disch := simp only [dev89_eq, dev90_eq])
  iapply (wp_send_rs m K c 1 27 (by decide) grsS1_27 (W) (O + tallyAt (dmaCell (fwd c 28) rsR 1 28) () Nc + tallyAt (dmaCell (fwd c 27) rsR 1 27) () Nc) (O + tallyAt (dmaCell (fwd c 28) rsR 1 28) () Nc) rfl) $$ [TSrsS1_27 TDrsS1_27 SrcrsS1_27 DstrsS1_27 HO]
  · isplitr; · iexact ISrsS1_27
    isplitr; · iexact IDrsS1_27
    isplitl [SrcrsS1_27]; · iexact SrcrsS1_27
    isplitl [DstrsS1_27]; · iexact DstrsS1_27
    isplitl [HO]; · iexact HO
    isplitl [TSrsS1_27]; · iexact TSrsS1_27
    isplitr; · iexact RSrsS1_27
    isplitl [TDrsS1_27]; · iexact TDrsS1_27
    iexact RDrsS1_27
  iintro ⟨CSrsS1_27, HO⟩
  sl_exec_parts (disch := simp only [dev89_eq, dev90_eq])
  iapply (wp_send_rs m K c 1 28 (by decide) grsS1_28 (W) (O + tallyAt (dmaCell (fwd c 28) rsR 1 28) () Nc) (O) rfl) $$ [TSrsS1_28 TDrsS1_28 SrcrsS1_28 DstrsS1_28 HO]
  · isplitr; · iexact ISrsS1_28
    isplitr; · iexact IDrsS1_28
    isplitl [SrcrsS1_28]; · iexact SrcrsS1_28
    isplitl [DstrsS1_28]; · iexact DstrsS1_28
    isplitl [HO]; · iexact HO
    isplitl [TSrsS1_28]; · iexact TSrsS1_28
    isplitr; · iexact RSrsS1_28
    isplitl [TDrsS1_28]; · iexact TDrsS1_28
    iexact RDrsS1_28
  iintro ⟨CSrsS1_28, HO⟩
  sl_exec_parts (disch := simp only [dev89_eq, dev90_eq])
  sl_step
  iapply Hk
  isplitl [ASrsS1_27 CSrsS1_27]
  · (try unfold recvRes)
    isplitr; · iexact ISrsS1_27
    isplitl [ASrsS1_27]; · iexact ASrsS1_27
    iexact CSrsS1_27
  isplitl [ASrsS1_28 CSrsS1_28]
  · (try unfold recvRes)
    isplitr; · iexact ISrsS1_28
    isplitl [ASrsS1_28]; · iexact ASrsS1_28
    iexact CSrsS1_28
  iexact HO

attribute [local sl_rounds] duties_dma amount_dma expect_dma in
set_option maxHeartbeats 4000000 in
theorem part34_spec (c : Dev nD) (v2 : BitVec 32) (v867 : BitVec 32) (O : CellTallies nD τ sig Unit) (W : Waits sig Unit) (Q : (PUnit) → sProp 𝕄) :
    iprop(copyRes m K rsS rsR c 1 29
      ∗ ((chunk accM (fwd c 29) 1).view.loc (c : Thread nD τ) ↦[(chunk accM (fwd c 29) 1).view.set]{fullShare} (chunk accM (fwd c 29) 1).view.rep (sent m c (fwd c 29) 1))
      ∗ (∃ f, ((slot 1 29).view.loc (fwd c 29 : Thread nD τ) ↦[(slot 1 29).view.set]{fullShare} f))
      ∗ copyRes m K rsS rsR c 1 30
      ∗ ((chunk accM (fwd c 30) 1).view.loc (c : Thread nD τ) ↦[(chunk accM (fwd c 30) 1).view.set]{fullShare} (chunk accM (fwd c 30) 1).view.rep (sent m c (fwd c 30) 1))
      ∗ (∃ f, ((slot 1 30).view.loc (fwd c 30 : Thread nD τ) ↦[(slot 1 30).view.set]{fullShare} f))
      ∗ owes (c : Thread nD τ) (O + tallyAt (dmaCell (fwd c 30) rsR 1 30) () Nc + tallyAt (dmaCell (fwd c 29) rsR 1 29) () Nc) W
      ∗ (∀ r, (recvRes m K rsS c 1 29
        ∗ recvRes m K rsS c 1 30
        ∗ owes (c : Thread nD τ) (O) (W)) -∗ Q r))
      ⊢ wp frame (wpE (defs₀ (F := F)) 𝒱₀ c none) Set.univ (k0_part34 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v867) Q := by
  unfold copyRes
  iintro ⟨⟨#ISrsS1_29, TSrsS1_29, #RSrsS1_29, ASrsS1_29, #IDrsS1_29, TDrsS1_29, #RDrsS1_29⟩, SrcrsS1_29, ⟨%grsS1_29, DstrsS1_29⟩, ⟨#ISrsS1_30, TSrsS1_30, #RSrsS1_30, ASrsS1_30, #IDrsS1_30, TDrsS1_30, #RDrsS1_30⟩, SrcrsS1_30, ⟨%grsS1_30, DstrsS1_30⟩, HO, Hk⟩
  sl_exec_parts (disch := simp only [dev91_eq, dev92_eq])
  iapply (wp_send_rs m K c 1 29 (by decide) grsS1_29 (W) (O + tallyAt (dmaCell (fwd c 30) rsR 1 30) () Nc + tallyAt (dmaCell (fwd c 29) rsR 1 29) () Nc) (O + tallyAt (dmaCell (fwd c 30) rsR 1 30) () Nc) rfl) $$ [TSrsS1_29 TDrsS1_29 SrcrsS1_29 DstrsS1_29 HO]
  · isplitr; · iexact ISrsS1_29
    isplitr; · iexact IDrsS1_29
    isplitl [SrcrsS1_29]; · iexact SrcrsS1_29
    isplitl [DstrsS1_29]; · iexact DstrsS1_29
    isplitl [HO]; · iexact HO
    isplitl [TSrsS1_29]; · iexact TSrsS1_29
    isplitr; · iexact RSrsS1_29
    isplitl [TDrsS1_29]; · iexact TDrsS1_29
    iexact RDrsS1_29
  iintro ⟨CSrsS1_29, HO⟩
  sl_exec_parts (disch := simp only [dev91_eq, dev92_eq])
  iapply (wp_send_rs m K c 1 30 (by decide) grsS1_30 (W) (O + tallyAt (dmaCell (fwd c 30) rsR 1 30) () Nc) (O) rfl) $$ [TSrsS1_30 TDrsS1_30 SrcrsS1_30 DstrsS1_30 HO]
  · isplitr; · iexact ISrsS1_30
    isplitr; · iexact IDrsS1_30
    isplitl [SrcrsS1_30]; · iexact SrcrsS1_30
    isplitl [DstrsS1_30]; · iexact DstrsS1_30
    isplitl [HO]; · iexact HO
    isplitl [TSrsS1_30]; · iexact TSrsS1_30
    isplitr; · iexact RSrsS1_30
    isplitl [TDrsS1_30]; · iexact TDrsS1_30
    iexact RDrsS1_30
  iintro ⟨CSrsS1_30, HO⟩
  sl_exec_parts (disch := simp only [dev91_eq, dev92_eq])
  sl_step
  iapply Hk
  isplitl [ASrsS1_29 CSrsS1_29]
  · (try unfold recvRes)
    isplitr; · iexact ISrsS1_29
    isplitl [ASrsS1_29]; · iexact ASrsS1_29
    iexact CSrsS1_29
  isplitl [ASrsS1_30 CSrsS1_30]
  · (try unfold recvRes)
    isplitr; · iexact ISrsS1_30
    isplitl [ASrsS1_30]; · iexact ASrsS1_30
    iexact CSrsS1_30
  iexact HO

attribute [local sl_rounds] duties_dma amount_dma expect_dma pay_rsR in
set_option maxHeartbeats 4000000 in
theorem part35_spec (c : Dev nD) (v2 : BitVec 32) (O : CellTallies nD τ sig Unit) (hmwrsR0_1 : (levAts L lv : sProp 𝕄) ⊢ MayWait (c : Thread nD τ) (.dma (semAt (arr rsR) 0 1)) () O) (W : Waits sig Unit) (Q : (PUnit) → sProp 𝕄) :
    iprop(copyRes m K rsS rsR c 1 31
      ∗ ((chunk accM (fwd c 31) 1).view.loc (c : Thread nD τ) ↦[(chunk accM (fwd c 31) 1).view.set]{fullShare} (chunk accM (fwd c 31) 1).view.rep (sent m c (fwd c 31) 1))
      ∗ (∃ f, ((slot 1 31).view.loc (fwd c 31 : Thread nD τ) ↦[(slot 1 31).view.set]{fullShare} f))
      ∗ recvRes m K rsR c 0 1
      ∗ levAts L lv
      ∗ owes (c : Thread nD τ) (O + tallyAt (dmaCell (fwd c 31) rsR 1 31) () Nc) W
      ∗ (∀ r, (recvRes m K rsS c 1 31
        ∗ ((slot 0 1).view.loc (c : Thread nD τ) ↦[(slot 0 1).view.set]{fullShare} (slot 0 1).view.rep (sent m (bwd c 1) c 0))
        ∗ (cellInv ER (sched m) (K (dmaCell c rsR 0 1)) (dmaCell c rsR 0 1) ∗ atPos ER (dmaCell c rsR 0 1) 1 ∅ 0)
        ∗ owes (c : Thread nD τ) (O) (insert (SemLoc.dma (semAt (arr rsR) 0 1), ()) (W))) -∗ Q r))
      ⊢ wp frame (wpE (defs₀ (F := F)) 𝒱₀ c none) Set.univ (k0_part35 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes recvRes
  iintro ⟨⟨#ISrsS1_31, TSrsS1_31, #RSrsS1_31, ASrsS1_31, #IDrsS1_31, TDrsS1_31, #RDrsS1_31⟩, SrcrsS1_31, ⟨%grsS1_31, DstrsS1_31⟩, ⟨#IrsR0_1, ArsR0_1, CrsR0_1⟩, #Hlev, HO, Hk⟩
  sl_exec_parts (disch := simp only [dev93_eq])
  iapply (wp_send_rs m K c 1 31 (by decide) grsS1_31 (W) (O + tallyAt (dmaCell (fwd c 31) rsR 1 31) () Nc) (O) rfl) $$ [TSrsS1_31 TDrsS1_31 SrcrsS1_31 DstrsS1_31 HO]
  · isplitr; · iexact ISrsS1_31
    isplitr; · iexact IDrsS1_31
    isplitl [SrcrsS1_31]; · iexact SrcrsS1_31
    isplitl [DstrsS1_31]; · iexact DstrsS1_31
    isplitl [HO]; · iexact HO
    isplitl [TSrsS1_31]; · iexact TSrsS1_31
    isplitr; · iexact RSrsS1_31
    isplitl [TDrsS1_31]; · iexact TDrsS1_31
    iexact RDrsS1_31
  iintro ⟨CSrsS1_31, HO⟩
  sl_exec_parts (disch := simp only [dev93_eq])
  sl_step
  iapply Hk
  isplitl [ASrsS1_31 CSrsS1_31]
  · (try unfold recvRes)
    isplitr; · iexact ISrsS1_31
    isplitl [ASrsS1_31]; · iexact ASrsS1_31
    iexact CSrsS1_31
  isplitl [ArsR0_1_pay1]; · iexact ArsR0_1_pay1
  isplitl [ArsR0_1]; · (isplitr; · iexact IrsR0_1); iexact ArsR0_1
  iexact HO

end Cert.KernelIdeal.AllReduce

end
-- ==== Proof.BodyCopiesC.lean ====
/-
  The copies of the gather phase, half 0: the device sends its finished rows to every peer.
  One statement per printed part of the kernel body, over the resources that part touches and nothing else.
-/
import proofs.«900438_g7700000000000439_dist_gemm_ar_m1024_k1024_n1024_f32_gelu_v7x_i32_1_alg».proof.Proof.BodyTables
noncomputable section
namespace Cert.KernelIdeal.AllReduce
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma in
set_option maxHeartbeats 4000000 in
theorem part51_spec (c : Dev nD) (v2 : BitVec 32) (O : CellTallies nD τ sig Unit) (W : Waits sig Unit) (Q : (BitVec 32) → sProp 𝕄) :
    iprop(copyRes m K agS agR c 0 1
      ∗ ((chunk outM c 0).view.loc (c : Thread nD τ) ↦[(chunk outM c 0).view.set]{shr 1} (chunk outM c 0).view.rep (reduced m c 0))
      ∗ (∃ f, ((chunk outM c 0).view.loc (fwd c 1 : Thread nD τ) ↦[(chunk outM c 0).view.set]{fullShare} f))
      ∗ copyRes m K agS agR c 0 2
      ∗ ((chunk outM c 0).view.loc (c : Thread nD τ) ↦[(chunk outM c 0).view.set]{shr 2} (chunk outM c 0).view.rep (reduced m c 0))
      ∗ (∃ f, ((chunk outM c 0).view.loc (fwd c 2 : Thread nD τ) ↦[(chunk outM c 0).view.set]{fullShare} f))
      ∗ copyRes m K agS agR c 0 3
      ∗ ((chunk outM c 0).view.loc (c : Thread nD τ) ↦[(chunk outM c 0).view.set]{shr 3} (chunk outM c 0).view.rep (reduced m c 0))
      ∗ (∃ f, ((chunk outM c 0).view.loc (fwd c 3 : Thread nD τ) ↦[(chunk outM c 0).view.set]{fullShare} f))
      ∗ owes (c : Thread nD τ) (O + tallyAt (dmaCell (fwd c 3) agR 0 3) () Nc + tallyAt (dmaCell (fwd c 2) agR 0 2) () Nc + tallyAt (dmaCell (fwd c 1) agR 0 1) () Nc) W
      ∗ (∀ r, (recvRes m K agS c 0 1
        ∗ recvRes m K agS c 0 2
        ∗ recvRes m K agS c 0 3
        ∗ owes (c : Thread nD τ) (O) (W)) -∗ Q r))
      ⊢ wp frame (wpE (defs₀ (F := F)) 𝒱₀ c none) Set.univ (k0_part51 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS0_1, TSagS0_1, #RSagS0_1, ASagS0_1, #IDagS0_1, TDagS0_1, #RDagS0_1⟩, SrcagS0_1, ⟨%gagS0_1, DstagS0_1⟩, ⟨#ISagS0_2, TSagS0_2, #RSagS0_2, ASagS0_2, #IDagS0_2, TDagS0_2, #RDagS0_2⟩, SrcagS0_2, ⟨%gagS0_2, DstagS0_2⟩, ⟨#ISagS0_3, TSagS0_3, #RSagS0_3, ASagS0_3, #IDagS0_3, TDagS0_3, #RDagS0_3⟩, SrcagS0_3, ⟨%gagS0_3, DstagS0_3⟩, HO, Hk⟩
  sl_exec_parts (disch := simp only [dev94_eq, dev95_eq, dev96_eq])
  iapply (wp_send_ag m K c 0 1 (by decide) gagS0_1 (W) (O + tallyAt (dmaCell (fwd c 3) agR 0 3) () Nc + tallyAt (dmaCell (fwd c 2) agR 0 2) () Nc + tallyAt (dmaCell (fwd c 1) agR 0 1) () Nc) (O + tallyAt (dmaCell (fwd c 3) agR 0 3) () Nc + tallyAt (dmaCell (fwd c 2) agR 0 2) () Nc) rfl) $$ [TSagS0_1 TDagS0_1 SrcagS0_1 DstagS0_1 HO]
  · isplitr; · iexact ISagS0_1
    isplitr; · iexact IDagS0_1
    isplitl [SrcagS0_1]; · iexact SrcagS0_1
    isplitl [DstagS0_1]; · iexact DstagS0_1
    isplitl [HO]; · iexact HO
    isplitl [TSagS0_1]; · iexact TSagS0_1
    isplitr; · iexact RSagS0_1
    isplitl [TDagS0_1]; · iexact TDagS0_1
    iexact RDagS0_1
  iintro ⟨CSagS0_1, HO⟩
  sl_exec_parts (disch := simp only [dev94_eq, dev95_eq, dev96_eq])
  iapply (wp_send_ag m K c 0 2 (by decide) gagS0_2 (W) (O + tallyAt (dmaCell (fwd c 3) agR 0 3) () Nc + tallyAt (dmaCell (fwd c 2) agR 0 2) () Nc) (O + tallyAt (dmaCell (fwd c 3) agR 0 3) () Nc) rfl) $$ [TSagS0_2 TDagS0_2 SrcagS0_2 DstagS0_2 HO]
  · isplitr; · iexact ISagS0_2
    isplitr; · iexact IDagS0_2
    isplitl [SrcagS0_2]; · iexact SrcagS0_2
    isplitl [DstagS0_2]; · iexact DstagS0_2
    isplitl [HO]; · iexact HO
    isplitl [TSagS0_2]; · iexact TSagS0_2
    isplitr; · iexact RSagS0_2
    isplitl [TDagS0_2]; · iexact TDagS0_2
    iexact RDagS0_2
  iintro ⟨CSagS0_2, HO⟩
  sl_exec_parts (disch := simp only [dev94_eq, dev95_eq, dev96_eq])
  iapply (wp_send_ag m K c 0 3 (by decide) gagS0_3 (W) (O + tallyAt (dmaCell (fwd c 3) agR 0 3) () Nc) (O) rfl) $$ [TSagS0_3 TDagS0_3 SrcagS0_3 DstagS0_3 HO]
  · isplitr; · iexact ISagS0_3
    isplitr; · iexact IDagS0_3
    isplitl [SrcagS0_3]; · iexact SrcagS0_3
    isplitl [DstagS0_3]; · iexact DstagS0_3
    isplitl [HO]; · iexact HO
    isplitl [TSagS0_3]; · iexact TSagS0_3
    isplitr; · iexact RSagS0_3
    isplitl [TDagS0_3]; · iexact TDagS0_3
    iexact RDagS0_3
  iintro ⟨CSagS0_3, HO⟩
  sl_exec_parts (disch := simp only [dev94_eq, dev95_eq, dev96_eq])
  sl_step
  iapply Hk
  isplitl [ASagS0_1 CSagS0_1]
  · (try unfold recvRes)
    isplitr; · iexact ISagS0_1
    isplitl [ASagS0_1]; · iexact ASagS0_1
    iexact CSagS0_1
  isplitl [ASagS0_2 CSagS0_2]
  · (try unfold recvRes)
    isplitr; · iexact ISagS0_2
    isplitl [ASagS0_2]; · iexact ASagS0_2
    iexact CSagS0_2
  isplitl [ASagS0_3 CSagS0_3]
  · (try unfold recvRes)
    isplitr; · iexact ISagS0_3
    isplitl [ASagS0_3]; · iexact ASagS0_3
    iexact CSagS0_3
  iexact HO

attribute [local sl_rounds] duties_dma amount_dma expect_dma in
set_option maxHeartbeats 4000000 in
theorem part52_spec (c : Dev nD) (v2 : BitVec 32) (c4_i32_1584 : BitVec 32) (O : CellTallies nD τ sig Unit) (W : Waits sig Unit) (Q : (BitVec 32) → sProp 𝕄) :
    iprop(copyRes m K agS agR c 0 4
      ∗ ((chunk outM c 0).view.loc (c : Thread nD τ) ↦[(chunk outM c 0).view.set]{shr 4} (chunk outM c 0).view.rep (reduced m c 0))
      ∗ (∃ f, ((chunk outM c 0).view.loc (fwd c 4 : Thread nD τ) ↦[(chunk outM c 0).view.set]{fullShare} f))
      ∗ copyRes m K agS agR c 0 5
      ∗ ((chunk outM c 0).view.loc (c : Thread nD τ) ↦[(chunk outM c 0).view.set]{shr 5} (chunk outM c 0).view.rep (reduced m c 0))
      ∗ (∃ f, ((chunk outM c 0).view.loc (fwd c 5 : Thread nD τ) ↦[(chunk outM c 0).view.set]{fullShare} f))
      ∗ owes (c : Thread nD τ) (O + tallyAt (dmaCell (fwd c 5) agR 0 5) () Nc + tallyAt (dmaCell (fwd c 4) agR 0 4) () Nc) W
      ∗ (∀ r, (recvRes m K agS c 0 4
        ∗ recvRes m K agS c 0 5
        ∗ owes (c : Thread nD τ) (O) (W)) -∗ Q r))
      ⊢ wp frame (wpE (defs₀ (F := F)) 𝒱₀ c none) Set.univ (k0_part52 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 c4_i32_1584) Q := by
  unfold copyRes
  iintro ⟨⟨#ISagS0_4, TSagS0_4, #RSagS0_4, ASagS0_4, #IDagS0_4, TDagS0_4, #RDagS0_4⟩, SrcagS0_4, ⟨%gagS0_4, DstagS0_4⟩, ⟨#ISagS0_5, TSagS0_5, #RSagS0_5, ASagS0_5, #IDagS0_5, TDagS0_5, #RDagS0_5⟩, SrcagS0_5, ⟨%gagS0_5, DstagS0_5⟩, HO, Hk⟩
  sl_exec_parts (disch := simp only [dev97_eq, dev98_eq])
  iapply (wp_send_ag m K c 0 4 (by decide) gagS0_4 (W) (O + tallyAt (dmaCell (fwd c 5) agR 0 5) () Nc + tallyAt (dmaCell (fwd c 4) agR 0 4) () Nc) (O + tallyAt (dmaCell (fwd c 5) agR 0 5) () Nc) rfl) $$ [TSagS0_4 TDagS0_4 SrcagS0_4 DstagS0_4 HO]
  · isplitr; · iexact ISagS0_4
    isplitr; · iexact IDagS0_4
    isplitl [SrcagS0_4]; · iexact SrcagS0_4
    isplitl [DstagS0_4]; · iexact DstagS0_4
    isplitl [HO]; · iexact HO
    isplitl [TSagS0_4]; · iexact TSagS0_4
    isplitr; · iexact RSagS0_4
    isplitl [TDagS0_4]; · iexact TDagS0_4
    iexact RDagS0_4
  iintro ⟨CSagS0_4, HO⟩
  sl_exec_parts (disch := simp only [dev97_eq, dev98_eq])
  iapply (wp_send_ag m K c 0 5 (by decide) gagS0_5 (W) (O + tallyAt (dmaCell (fwd c 5) agR 0 5) () Nc) (O) rfl) $$ [TSagS0_5 TDagS0_5 SrcagS0_5 DstagS0_5 HO]
  · isplitr; · iexact ISagS0_5
    isplitr; · iexact IDagS0_5
    isplitl [SrcagS0_5]; · iexact SrcagS0_5
    isplitl [DstagS0_5]; · iexact DstagS0_5
    isplitl [HO]; · iexact HO
    isplitl [TSagS0_5]; · iexact TSagS0_5
    isplitr; · iexact RSagS0_5
    isplitl [TDagS0_5]; · iexact TDagS0_5
    iexact RDagS0_5
  iintro ⟨CSagS0_5, HO⟩
  sl_exec_parts (disch := simp only [dev97_eq, dev98_eq])
  sl_step
  iapply Hk
  isplitl [ASagS0_4 CSagS0_4]
  · (try unfold recvRes)
    isplitr; · iexact ISagS0_4
    isplitl [ASagS0_4]; · iexact ASagS0_4
    iexact CSagS0_4
  isplitl [ASagS0_5 CSagS0_5]
  · (try unfold recvRes)
    isplitr; · iexact ISagS0_5
    isplitl [ASagS0_5]; · iexact ASagS0_5
    iexact CSagS0_5
  iexact HO

attribute [local sl_rounds] duties_dma amount_dma expect_dma in
set_option maxHeartbeats 4000000 in
theorem part53_spec (c : Dev nD) (v2 : BitVec 32) (v1327 : BitVec 32) (O : CellTallies nD τ sig Unit) (W : Waits sig Unit) (Q : (PUnit) → sProp 𝕄) :
    iprop(copyRes m K agS agR c 0 6
      ∗ ((chunk outM c 0).view.loc (c : Thread nD τ) ↦[(chunk outM c 0).view.set]{shr 6} (chunk outM c 0).view.rep (reduced m c 0))
      ∗ (∃ f, ((chunk outM c 0).view.loc (fwd c 6 : Thread nD τ) ↦[(chunk outM c 0).view.set]{fullShare} f))
      ∗ copyRes m K agS agR c 0 7
      ∗ ((chunk outM c 0).view.loc (c : Thread nD τ) ↦[(chunk outM c 0).view.set]{shr 7} (chunk outM c 0).view.rep (reduced m c 0))
      ∗ (∃ f, ((chunk outM c 0).view.loc (fwd c 7 : Thread nD τ) ↦[(chunk outM c 0).view.set]{fullShare} f))
      ∗ owes (c : Thread nD τ) (O + tallyAt (dmaCell (fwd c 7) agR 0 7) () Nc + tallyAt (dmaCell (fwd c 6) agR 0 6) () Nc) W
      ∗ (∀ r, (recvRes m K agS c 0 6
        ∗ recvRes m K agS c 0 7
        ∗ owes (c : Thread nD τ) (O) (W)) -∗ Q r))
      ⊢ wp frame (wpE (defs₀ (F := F)) 𝒱₀ c none) Set.univ (k0_part53 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1327) Q := by
  unfold copyRes
  iintro ⟨⟨#ISagS0_6, TSagS0_6, #RSagS0_6, ASagS0_6, #IDagS0_6, TDagS0_6, #RDagS0_6⟩, SrcagS0_6, ⟨%gagS0_6, DstagS0_6⟩, ⟨#ISagS0_7, TSagS0_7, #RSagS0_7, ASagS0_7, #IDagS0_7, TDagS0_7, #RDagS0_7⟩, SrcagS0_7, ⟨%gagS0_7, DstagS0_7⟩, HO, Hk⟩
  sl_exec_parts (disch := simp only [dev99_eq, dev100_eq])
  iapply (wp_send_ag m K c 0 6 (by decide) gagS0_6 (W) (O + tallyAt (dmaCell (fwd c 7) agR 0 7) () Nc + tallyAt (dmaCell (fwd c 6) agR 0 6) () Nc) (O + tallyAt (dmaCell (fwd c 7) agR 0 7) () Nc) rfl) $$ [TSagS0_6 TDagS0_6 SrcagS0_6 DstagS0_6 HO]
  · isplitr; · iexact ISagS0_6
    isplitr; · iexact IDagS0_6
    isplitl [SrcagS0_6]; · iexact SrcagS0_6
    isplitl [DstagS0_6]; · iexact DstagS0_6
    isplitl [HO]; · iexact HO
    isplitl [TSagS0_6]; · iexact TSagS0_6
    isplitr; · iexact RSagS0_6
    isplitl [TDagS0_6]; · iexact TDagS0_6
    iexact RDagS0_6
  iintro ⟨CSagS0_6, HO⟩
  sl_exec_parts (disch := simp only [dev99_eq, dev100_eq])
  iapply (wp_send_ag m K c 0 7 (by decide) gagS0_7 (W) (O + tallyAt (dmaCell (fwd c 7) agR 0 7) () Nc) (O) rfl) $$ [TSagS0_7 TDagS0_7 SrcagS0_7 DstagS0_7 HO]
  · isplitr; · iexact ISagS0_7
    isplitr; · iexact IDagS0_7
    isplitl [SrcagS0_7]; · iexact SrcagS0_7
    isplitl [DstagS0_7]; · iexact DstagS0_7
    isplitl [HO]; · iexact HO
    isplitl [TSagS0_7]; · iexact TSagS0_7
    isplitr; · iexact RSagS0_7
    isplitl [TDagS0_7]; · iexact TDagS0_7
    iexact RDagS0_7
  iintro ⟨CSagS0_7, HO⟩
  sl_exec_parts (disch := simp only [dev99_eq, dev100_eq])
  sl_step
  iapply Hk
  isplitl [ASagS0_6 CSagS0_6]
  · (try unfold recvRes)
    isplitr; · iexact ISagS0_6
    isplitl [ASagS0_6]; · iexact ASagS0_6
    iexact CSagS0_6
  isplitl [ASagS0_7 CSagS0_7]
  · (try unfold recvRes)
    isplitr; · iexact ISagS0_7
    isplitl [ASagS0_7]; · iexact ASagS0_7
    iexact CSagS0_7
  iexact HO

attribute [local sl_rounds] duties_dma amount_dma expect_dma in
set_option maxHeartbeats 4000000 in
theorem part54_spec (c : Dev nD) (v2 : BitVec 32) (O : CellTallies nD τ sig Unit) (W : Waits sig Unit) (Q : (BitVec 32) → sProp 𝕄) :
    iprop(copyRes m K agS agR c 0 8
      ∗ ((chunk outM c 0).view.loc (c : Thread nD τ) ↦[(chunk outM c 0).view.set]{shr 8} (chunk outM c 0).view.rep (reduced m c 0))
      ∗ (∃ f, ((chunk outM c 0).view.loc (fwd c 8 : Thread nD τ) ↦[(chunk outM c 0).view.set]{fullShare} f))
      ∗ copyRes m K agS agR c 0 9
      ∗ ((chunk outM c 0).view.loc (c : Thread nD τ) ↦[(chunk outM c 0).view.set]{shr 9} (chunk outM c 0).view.rep (reduced m c 0))
      ∗ (∃ f, ((chunk outM c 0).view.loc (fwd c 9 : Thread nD τ) ↦[(chunk outM c 0).view.set]{fullShare} f))
      ∗ copyRes m K agS agR c 0 10
      ∗ ((chunk outM c 0).view.loc (c : Thread nD τ) ↦[(chunk outM c 0).view.set]{shr 10} (chunk outM c 0).view.rep (reduced m c 0))
      ∗ (∃ f, ((chunk outM c 0).view.loc (fwd c 10 : Thread nD τ) ↦[(chunk outM c 0).view.set]{fullShare} f))
      ∗ owes (c : Thread nD τ) (O + tallyAt (dmaCell (fwd c 10) agR 0 10) () Nc + tallyAt (dmaCell (fwd c 9) agR 0 9) () Nc + tallyAt (dmaCell (fwd c 8) agR 0 8) () Nc) W
      ∗ (∀ r, (recvRes m K agS c 0 8
        ∗ recvRes m K agS c 0 9
        ∗ recvRes m K agS c 0 10
        ∗ owes (c : Thread nD τ) (O) (W)) -∗ Q r))
      ⊢ wp frame (wpE (defs₀ (F := F)) 𝒱₀ c none) Set.univ (k0_part54 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS0_8, TSagS0_8, #RSagS0_8, ASagS0_8, #IDagS0_8, TDagS0_8, #RDagS0_8⟩, SrcagS0_8, ⟨%gagS0_8, DstagS0_8⟩, ⟨#ISagS0_9, TSagS0_9, #RSagS0_9, ASagS0_9, #IDagS0_9, TDagS0_9, #RDagS0_9⟩, SrcagS0_9, ⟨%gagS0_9, DstagS0_9⟩, ⟨#ISagS0_10, TSagS0_10, #RSagS0_10, ASagS0_10, #IDagS0_10, TDagS0_10, #RDagS0_10⟩, SrcagS0_10, ⟨%gagS0_10, DstagS0_10⟩, HO, Hk⟩
  sl_exec_parts (disch := simp only [dev101_eq, dev102_eq, dev103_eq])
  iapply (wp_send_ag m K c 0 8 (by decide) gagS0_8 (W) (O + tallyAt (dmaCell (fwd c 10) agR 0 10) () Nc + tallyAt (dmaCell (fwd c 9) agR 0 9) () Nc + tallyAt (dmaCell (fwd c 8) agR 0 8) () Nc) (O + tallyAt (dmaCell (fwd c 10) agR 0 10) () Nc + tallyAt (dmaCell (fwd c 9) agR 0 9) () Nc) rfl) $$ [TSagS0_8 TDagS0_8 SrcagS0_8 DstagS0_8 HO]
  · isplitr; · iexact ISagS0_8
    isplitr; · iexact IDagS0_8
    isplitl [SrcagS0_8]; · iexact SrcagS0_8
    isplitl [DstagS0_8]; · iexact DstagS0_8
    isplitl [HO]; · iexact HO
    isplitl [TSagS0_8]; · iexact TSagS0_8
    isplitr; · iexact RSagS0_8
    isplitl [TDagS0_8]; · iexact TDagS0_8
    iexact RDagS0_8
  iintro ⟨CSagS0_8, HO⟩
  sl_exec_parts (disch := simp only [dev101_eq, dev102_eq, dev103_eq])
  iapply (wp_send_ag m K c 0 9 (by decide) gagS0_9 (W) (O + tallyAt (dmaCell (fwd c 10) agR 0 10) () Nc + tallyAt (dmaCell (fwd c 9) agR 0 9) () Nc) (O + tallyAt (dmaCell (fwd c 10) agR 0 10) () Nc) rfl) $$ [TSagS0_9 TDagS0_9 SrcagS0_9 DstagS0_9 HO]
  · isplitr; · iexact ISagS0_9
    isplitr; · iexact IDagS0_9
    isplitl [SrcagS0_9]; · iexact SrcagS0_9
    isplitl [DstagS0_9]; · iexact DstagS0_9
    isplitl [HO]; · iexact HO
    isplitl [TSagS0_9]; · iexact TSagS0_9
    isplitr; · iexact RSagS0_9
    isplitl [TDagS0_9]; · iexact TDagS0_9
    iexact RDagS0_9
  iintro ⟨CSagS0_9, HO⟩
  sl_exec_parts (disch := simp only [dev101_eq, dev102_eq, dev103_eq])
  iapply (wp_send_ag m K c 0 10 (by decide) gagS0_10 (W) (O + tallyAt (dmaCell (fwd c 10) agR 0 10) () Nc) (O) rfl) $$ [TSagS0_10 TDagS0_10 SrcagS0_10 DstagS0_10 HO]
  · isplitr; · iexact ISagS0_10
    isplitr; · iexact IDagS0_10
    isplitl [SrcagS0_10]; · iexact SrcagS0_10
    isplitl [DstagS0_10]; · iexact DstagS0_10
    isplitl [HO]; · iexact HO
    isplitl [TSagS0_10]; · iexact TSagS0_10
    isplitr; · iexact RSagS0_10
    isplitl [TDagS0_10]; · iexact TDagS0_10
    iexact RDagS0_10
  iintro ⟨CSagS0_10, HO⟩
  sl_exec_parts (disch := simp only [dev101_eq, dev102_eq, dev103_eq])
  sl_step
  iapply Hk
  isplitl [ASagS0_8 CSagS0_8]
  · (try unfold recvRes)
    isplitr; · iexact ISagS0_8
    isplitl [ASagS0_8]; · iexact ASagS0_8
    iexact CSagS0_8
  isplitl [ASagS0_9 CSagS0_9]
  · (try unfold recvRes)
    isplitr; · iexact ISagS0_9
    isplitl [ASagS0_9]; · iexact ASagS0_9
    iexact CSagS0_9
  isplitl [ASagS0_10 CSagS0_10]
  · (try unfold recvRes)
    isplitr; · iexact ISagS0_10
    isplitl [ASagS0_10]; · iexact ASagS0_10
    iexact CSagS0_10
  iexact HO

attribute [local sl_rounds] duties_dma amount_dma expect_dma in
set_option maxHeartbeats 4000000 in
theorem part55_spec (c : Dev nD) (v2 : BitVec 32) (v1387 : BitVec 32) (O : CellTallies nD τ sig Unit) (W : Waits sig Unit) (Q : (PUnit) → sProp 𝕄) :
    iprop(copyRes m K agS agR c 0 11
      ∗ ((chunk outM c 0).view.loc (c : Thread nD τ) ↦[(chunk outM c 0).view.set]{shr 11} (chunk outM c 0).view.rep (reduced m c 0))
      ∗ (∃ f, ((chunk outM c 0).view.loc (fwd c 11 : Thread nD τ) ↦[(chunk outM c 0).view.set]{fullShare} f))
      ∗ copyRes m K agS agR c 0 12
      ∗ ((chunk outM c 0).view.loc (c : Thread nD τ) ↦[(chunk outM c 0).view.set]{shr 12} (chunk outM c 0).view.rep (reduced m c 0))
      ∗ (∃ f, ((chunk outM c 0).view.loc (fwd c 12 : Thread nD τ) ↦[(chunk outM c 0).view.set]{fullShare} f))
      ∗ owes (c : Thread nD τ) (O + tallyAt (dmaCell (fwd c 12) agR 0 12) () Nc + tallyAt (dmaCell (fwd c 11) agR 0 11) () Nc) W
      ∗ (∀ r, (recvRes m K agS c 0 11
        ∗ recvRes m K agS c 0 12
        ∗ owes (c : Thread nD τ) (O) (W)) -∗ Q r))
      ⊢ wp frame (wpE (defs₀ (F := F)) 𝒱₀ c none) Set.univ (k0_part55 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1387) Q := by
  unfold copyRes
  iintro ⟨⟨#ISagS0_11, TSagS0_11, #RSagS0_11, ASagS0_11, #IDagS0_11, TDagS0_11, #RDagS0_11⟩, SrcagS0_11, ⟨%gagS0_11, DstagS0_11⟩, ⟨#ISagS0_12, TSagS0_12, #RSagS0_12, ASagS0_12, #IDagS0_12, TDagS0_12, #RDagS0_12⟩, SrcagS0_12, ⟨%gagS0_12, DstagS0_12⟩, HO, Hk⟩
  sl_exec_parts (disch := simp only [dev104_eq, dev105_eq])
  iapply (wp_send_ag m K c 0 11 (by decide) gagS0_11 (W) (O + tallyAt (dmaCell (fwd c 12) agR 0 12) () Nc + tallyAt (dmaCell (fwd c 11) agR 0 11) () Nc) (O + tallyAt (dmaCell (fwd c 12) agR 0 12) () Nc) rfl) $$ [TSagS0_11 TDagS0_11 SrcagS0_11 DstagS0_11 HO]
  · isplitr; · iexact ISagS0_11
    isplitr; · iexact IDagS0_11
    isplitl [SrcagS0_11]; · iexact SrcagS0_11
    isplitl [DstagS0_11]; · iexact DstagS0_11
    isplitl [HO]; · iexact HO
    isplitl [TSagS0_11]; · iexact TSagS0_11
    isplitr; · iexact RSagS0_11
    isplitl [TDagS0_11]; · iexact TDagS0_11
    iexact RDagS0_11
  iintro ⟨CSagS0_11, HO⟩
  sl_exec_parts (disch := simp only [dev104_eq, dev105_eq])
  iapply (wp_send_ag m K c 0 12 (by decide) gagS0_12 (W) (O + tallyAt (dmaCell (fwd c 12) agR 0 12) () Nc) (O) rfl) $$ [TSagS0_12 TDagS0_12 SrcagS0_12 DstagS0_12 HO]
  · isplitr; · iexact ISagS0_12
    isplitr; · iexact IDagS0_12
    isplitl [SrcagS0_12]; · iexact SrcagS0_12
    isplitl [DstagS0_12]; · iexact DstagS0_12
    isplitl [HO]; · iexact HO
    isplitl [TSagS0_12]; · iexact TSagS0_12
    isplitr; · iexact RSagS0_12
    isplitl [TDagS0_12]; · iexact TDagS0_12
    iexact RDagS0_12
  iintro ⟨CSagS0_12, HO⟩
  sl_exec_parts (disch := simp only [dev104_eq, dev105_eq])
  sl_step
  iapply Hk
  isplitl [ASagS0_11 CSagS0_11]
  · (try unfold recvRes)
    isplitr; · iexact ISagS0_11
    isplitl [ASagS0_11]; · iexact ASagS0_11
    iexact CSagS0_11
  isplitl [ASagS0_12 CSagS0_12]
  · (try unfold recvRes)
    isplitr; · iexact ISagS0_12
    isplitl [ASagS0_12]; · iexact ASagS0_12
    iexact CSagS0_12
  iexact HO

attribute [local sl_rounds] duties_dma amount_dma expect_dma in
set_option maxHeartbeats 4000000 in
theorem part56_spec (c : Dev nD) (v2 : BitVec 32) (O : CellTallies nD τ sig Unit) (W : Waits sig Unit) (Q : (BitVec 32) → sProp 𝕄) :
    iprop(copyRes m K agS agR c 0 13
      ∗ ((chunk outM c 0).view.loc (c : Thread nD τ) ↦[(chunk outM c 0).view.set]{shr 13} (chunk outM c 0).view.rep (reduced m c 0))
      ∗ (∃ f, ((chunk outM c 0).view.loc (fwd c 13 : Thread nD τ) ↦[(chunk outM c 0).view.set]{fullShare} f))
      ∗ copyRes m K agS agR c 0 14
      ∗ ((chunk outM c 0).view.loc (c : Thread nD τ) ↦[(chunk outM c 0).view.set]{shr 14} (chunk outM c 0).view.rep (reduced m c 0))
      ∗ (∃ f, ((chunk outM c 0).view.loc (fwd c 14 : Thread nD τ) ↦[(chunk outM c 0).view.set]{fullShare} f))
      ∗ copyRes m K agS agR c 0 15
      ∗ ((chunk outM c 0).view.loc (c : Thread nD τ) ↦[(chunk outM c 0).view.set]{shr 15} (chunk outM c 0).view.rep (reduced m c 0))
      ∗ (∃ f, ((chunk outM c 0).view.loc (fwd c 15 : Thread nD τ) ↦[(chunk outM c 0).view.set]{fullShare} f))
      ∗ owes (c : Thread nD τ) (O + tallyAt (dmaCell (fwd c 15) agR 0 15) () Nc + tallyAt (dmaCell (fwd c 14) agR 0 14) () Nc + tallyAt (dmaCell (fwd c 13) agR 0 13) () Nc) W
      ∗ (∀ r, (recvRes m K agS c 0 13
        ∗ recvRes m K agS c 0 14
        ∗ recvRes m K agS c 0 15
        ∗ owes (c : Thread nD τ) (O) (W)) -∗ Q r))
      ⊢ wp frame (wpE (defs₀ (F := F)) 𝒱₀ c none) Set.univ (k0_part56 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS0_13, TSagS0_13, #RSagS0_13, ASagS0_13, #IDagS0_13, TDagS0_13, #RDagS0_13⟩, SrcagS0_13, ⟨%gagS0_13, DstagS0_13⟩, ⟨#ISagS0_14, TSagS0_14, #RSagS0_14, ASagS0_14, #IDagS0_14, TDagS0_14, #RDagS0_14⟩, SrcagS0_14, ⟨%gagS0_14, DstagS0_14⟩, ⟨#ISagS0_15, TSagS0_15, #RSagS0_15, ASagS0_15, #IDagS0_15, TDagS0_15, #RDagS0_15⟩, SrcagS0_15, ⟨%gagS0_15, DstagS0_15⟩, HO, Hk⟩
  sl_exec_parts (disch := simp only [dev106_eq, dev107_eq, dev108_eq])
  iapply (wp_send_ag m K c 0 13 (by decide) gagS0_13 (W) (O + tallyAt (dmaCell (fwd c 15) agR 0 15) () Nc + tallyAt (dmaCell (fwd c 14) agR 0 14) () Nc + tallyAt (dmaCell (fwd c 13) agR 0 13) () Nc) (O + tallyAt (dmaCell (fwd c 15) agR 0 15) () Nc + tallyAt (dmaCell (fwd c 14) agR 0 14) () Nc) rfl) $$ [TSagS0_13 TDagS0_13 SrcagS0_13 DstagS0_13 HO]
  · isplitr; · iexact ISagS0_13
    isplitr; · iexact IDagS0_13
    isplitl [SrcagS0_13]; · iexact SrcagS0_13
    isplitl [DstagS0_13]; · iexact DstagS0_13
    isplitl [HO]; · iexact HO
    isplitl [TSagS0_13]; · iexact TSagS0_13
    isplitr; · iexact RSagS0_13
    isplitl [TDagS0_13]; · iexact TDagS0_13
    iexact RDagS0_13
  iintro ⟨CSagS0_13, HO⟩
  sl_exec_parts (disch := simp only [dev106_eq, dev107_eq, dev108_eq])
  iapply (wp_send_ag m K c 0 14 (by decide) gagS0_14 (W) (O + tallyAt (dmaCell (fwd c 15) agR 0 15) () Nc + tallyAt (dmaCell (fwd c 14) agR 0 14) () Nc) (O + tallyAt (dmaCell (fwd c 15) agR 0 15) () Nc) rfl) $$ [TSagS0_14 TDagS0_14 SrcagS0_14 DstagS0_14 HO]
  · isplitr; · iexact ISagS0_14
    isplitr; · iexact IDagS0_14
    isplitl [SrcagS0_14]; · iexact SrcagS0_14
    isplitl [DstagS0_14]; · iexact DstagS0_14
    isplitl [HO]; · iexact HO
    isplitl [TSagS0_14]; · iexact TSagS0_14
    isplitr; · iexact RSagS0_14
    isplitl [TDagS0_14]; · iexact TDagS0_14
    iexact RDagS0_14
  iintro ⟨CSagS0_14, HO⟩
  sl_exec_parts (disch := simp only [dev106_eq, dev107_eq, dev108_eq])
  iapply (wp_send_ag m K c 0 15 (by decide) gagS0_15 (W) (O + tallyAt (dmaCell (fwd c 15) agR 0 15) () Nc) (O) rfl) $$ [TSagS0_15 TDagS0_15 SrcagS0_15 DstagS0_15 HO]
  · isplitr; · iexact ISagS0_15
    isplitr; · iexact IDagS0_15
    isplitl [SrcagS0_15]; · iexact SrcagS0_15
    isplitl [DstagS0_15]; · iexact DstagS0_15
    isplitl [HO]; · iexact HO
    isplitl [TSagS0_15]; · iexact TSagS0_15
    isplitr; · iexact RSagS0_15
    isplitl [TDagS0_15]; · iexact TDagS0_15
    iexact RDagS0_15
  iintro ⟨CSagS0_15, HO⟩
  sl_exec_parts (disch := simp only [dev106_eq, dev107_eq, dev108_eq])
  sl_step
  iapply Hk
  isplitl [ASagS0_13 CSagS0_13]
  · (try unfold recvRes)
    isplitr; · iexact ISagS0_13
    isplitl [ASagS0_13]; · iexact ASagS0_13
    iexact CSagS0_13
  isplitl [ASagS0_14 CSagS0_14]
  · (try unfold recvRes)
    isplitr; · iexact ISagS0_14
    isplitl [ASagS0_14]; · iexact ASagS0_14
    iexact CSagS0_14
  isplitl [ASagS0_15 CSagS0_15]
  · (try unfold recvRes)
    isplitr; · iexact ISagS0_15
    isplitl [ASagS0_15]; · iexact ASagS0_15
    iexact CSagS0_15
  iexact HO

attribute [local sl_rounds] duties_dma amount_dma expect_dma in
set_option maxHeartbeats 4000000 in
theorem part57_spec (c : Dev nD) (v2 : BitVec 32) (c16_i32_1728 : BitVec 32) (O : CellTallies nD τ sig Unit) (W : Waits sig Unit) (Q : (BitVec 32) → sProp 𝕄) :
    iprop(copyRes m K agS agR c 0 16
      ∗ ((chunk outM c 0).view.loc (c : Thread nD τ) ↦[(chunk outM c 0).view.set]{shr 16} (chunk outM c 0).view.rep (reduced m c 0))
      ∗ (∃ f, ((chunk outM c 0).view.loc (fwd c 16 : Thread nD τ) ↦[(chunk outM c 0).view.set]{fullShare} f))
      ∗ copyRes m K agS agR c 0 17
      ∗ ((chunk outM c 0).view.loc (c : Thread nD τ) ↦[(chunk outM c 0).view.set]{shr 17} (chunk outM c 0).view.rep (reduced m c 0))
      ∗ (∃ f, ((chunk outM c 0).view.loc (fwd c 17 : Thread nD τ) ↦[(chunk outM c 0).view.set]{fullShare} f))
      ∗ owes (c : Thread nD τ) (O + tallyAt (dmaCell (fwd c 17) agR 0 17) () Nc + tallyAt (dmaCell (fwd c 16) agR 0 16) () Nc) W
      ∗ (∀ r, (recvRes m K agS c 0 16
        ∗ recvRes m K agS c 0 17
        ∗ owes (c : Thread nD τ) (O) (W)) -∗ Q r))
      ⊢ wp frame (wpE (defs₀ (F := F)) 𝒱₀ c none) Set.univ (k0_part57 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 c16_i32_1728) Q := by
  unfold copyRes
  iintro ⟨⟨#ISagS0_16, TSagS0_16, #RSagS0_16, ASagS0_16, #IDagS0_16, TDagS0_16, #RDagS0_16⟩, SrcagS0_16, ⟨%gagS0_16, DstagS0_16⟩, ⟨#ISagS0_17, TSagS0_17, #RSagS0_17, ASagS0_17, #IDagS0_17, TDagS0_17, #RDagS0_17⟩, SrcagS0_17, ⟨%gagS0_17, DstagS0_17⟩, HO, Hk⟩
  sl_exec_parts (disch := simp only [dev109_eq, dev110_eq])
  iapply (wp_send_ag m K c 0 16 (by decide) gagS0_16 (W) (O + tallyAt (dmaCell (fwd c 17) agR 0 17) () Nc + tallyAt (dmaCell (fwd c 16) agR 0 16) () Nc) (O + tallyAt (dmaCell (fwd c 17) agR 0 17) () Nc) rfl) $$ [TSagS0_16 TDagS0_16 SrcagS0_16 DstagS0_16 HO]
  · isplitr; · iexact ISagS0_16
    isplitr; · iexact IDagS0_16
    isplitl [SrcagS0_16]; · iexact SrcagS0_16
    isplitl [DstagS0_16]; · iexact DstagS0_16
    isplitl [HO]; · iexact HO
    isplitl [TSagS0_16]; · iexact TSagS0_16
    isplitr; · iexact RSagS0_16
    isplitl [TDagS0_16]; · iexact TDagS0_16
    iexact RDagS0_16
  iintro ⟨CSagS0_16, HO⟩
  sl_exec_parts (disch := simp only [dev109_eq, dev110_eq])
  iapply (wp_send_ag m K c 0 17 (by decide) gagS0_17 (W) (O + tallyAt (dmaCell (fwd c 17) agR 0 17) () Nc) (O) rfl) $$ [TSagS0_17 TDagS0_17 SrcagS0_17 DstagS0_17 HO]
  · isplitr; · iexact ISagS0_17
    isplitr; · iexact IDagS0_17
    isplitl [SrcagS0_17]; · iexact SrcagS0_17
    isplitl [DstagS0_17]; · iexact DstagS0_17
    isplitl [HO]; · iexact HO
    isplitl [TSagS0_17]; · iexact TSagS0_17
    isplitr; · iexact RSagS0_17
    isplitl [TDagS0_17]; · iexact TDagS0_17
    iexact RDagS0_17
  iintro ⟨CSagS0_17, HO⟩
  sl_exec_parts (disch := simp only [dev109_eq, dev110_eq])
  sl_step
  iapply Hk
  isplitl [ASagS0_16 CSagS0_16]
  · (try unfold recvRes)
    isplitr; · iexact ISagS0_16
    isplitl [ASagS0_16]; · iexact ASagS0_16
    iexact CSagS0_16
  isplitl [ASagS0_17 CSagS0_17]
  · (try unfold recvRes)
    isplitr; · iexact ISagS0_17
    isplitl [ASagS0_17]; · iexact ASagS0_17
    iexact CSagS0_17
  iexact HO

attribute [local sl_rounds] duties_dma amount_dma expect_dma in
set_option maxHeartbeats 4000000 in
theorem part58_spec (c : Dev nD) (v2 : BitVec 32) (v1471 : BitVec 32) (O : CellTallies nD τ sig Unit) (W : Waits sig Unit) (Q : (PUnit) → sProp 𝕄) :
    iprop(copyRes m K agS agR c 0 18
      ∗ ((chunk outM c 0).view.loc (c : Thread nD τ) ↦[(chunk outM c 0).view.set]{shr 18} (chunk outM c 0).view.rep (reduced m c 0))
      ∗ (∃ f, ((chunk outM c 0).view.loc (fwd c 18 : Thread nD τ) ↦[(chunk outM c 0).view.set]{fullShare} f))
      ∗ copyRes m K agS agR c 0 19
      ∗ ((chunk outM c 0).view.loc (c : Thread nD τ) ↦[(chunk outM c 0).view.set]{shr 19} (chunk outM c 0).view.rep (reduced m c 0))
      ∗ (∃ f, ((chunk outM c 0).view.loc (fwd c 19 : Thread nD τ) ↦[(chunk outM c 0).view.set]{fullShare} f))
      ∗ owes (c : Thread nD τ) (O + tallyAt (dmaCell (fwd c 19) agR 0 19) () Nc + tallyAt (dmaCell (fwd c 18) agR 0 18) () Nc) W
      ∗ (∀ r, (recvRes m K agS c 0 18
        ∗ recvRes m K agS c 0 19
        ∗ owes (c : Thread nD τ) (O) (W)) -∗ Q r))
      ⊢ wp frame (wpE (defs₀ (F := F)) 𝒱₀ c none) Set.univ (k0_part58 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1471) Q := by
  unfold copyRes
  iintro ⟨⟨#ISagS0_18, TSagS0_18, #RSagS0_18, ASagS0_18, #IDagS0_18, TDagS0_18, #RDagS0_18⟩, SrcagS0_18, ⟨%gagS0_18, DstagS0_18⟩, ⟨#ISagS0_19, TSagS0_19, #RSagS0_19, ASagS0_19, #IDagS0_19, TDagS0_19, #RDagS0_19⟩, SrcagS0_19, ⟨%gagS0_19, DstagS0_19⟩, HO, Hk⟩
  sl_exec_parts (disch := simp only [dev111_eq, dev112_eq])
  iapply (wp_send_ag m K c 0 18 (by decide) gagS0_18 (W) (O + tallyAt (dmaCell (fwd c 19) agR 0 19) () Nc + tallyAt (dmaCell (fwd c 18) agR 0 18) () Nc) (O + tallyAt (dmaCell (fwd c 19) agR 0 19) () Nc) rfl) $$ [TSagS0_18 TDagS0_18 SrcagS0_18 DstagS0_18 HO]
  · isplitr; · iexact ISagS0_18
    isplitr; · iexact IDagS0_18
    isplitl [SrcagS0_18]; · iexact SrcagS0_18
    isplitl [DstagS0_18]; · iexact DstagS0_18
    isplitl [HO]; · iexact HO
    isplitl [TSagS0_18]; · iexact TSagS0_18
    isplitr; · iexact RSagS0_18
    isplitl [TDagS0_18]; · iexact TDagS0_18
    iexact RDagS0_18
  iintro ⟨CSagS0_18, HO⟩
  sl_exec_parts (disch := simp only [dev111_eq, dev112_eq])
  iapply (wp_send_ag m K c 0 19 (by decide) gagS0_19 (W) (O + tallyAt (dmaCell (fwd c 19) agR 0 19) () Nc) (O) rfl) $$ [TSagS0_19 TDagS0_19 SrcagS0_19 DstagS0_19 HO]
  · isplitr; · iexact ISagS0_19
    isplitr; · iexact IDagS0_19
    isplitl [SrcagS0_19]; · iexact SrcagS0_19
    isplitl [DstagS0_19]; · iexact DstagS0_19
    isplitl [HO]; · iexact HO
    isplitl [TSagS0_19]; · iexact TSagS0_19
    isplitr; · iexact RSagS0_19
    isplitl [TDagS0_19]; · iexact TDagS0_19
    iexact RDagS0_19
  iintro ⟨CSagS0_19, HO⟩
  sl_exec_parts (disch := simp only [dev111_eq, dev112_eq])
  sl_step
  iapply Hk
  isplitl [ASagS0_18 CSagS0_18]
  · (try unfold recvRes)
    isplitr; · iexact ISagS0_18
    isplitl [ASagS0_18]; · iexact ASagS0_18
    iexact CSagS0_18
  isplitl [ASagS0_19 CSagS0_19]
  · (try unfold recvRes)
    isplitr; · iexact ISagS0_19
    isplitl [ASagS0_19]; · iexact ASagS0_19
    iexact CSagS0_19
  iexact HO

attribute [local sl_rounds] duties_dma amount_dma expect_dma in
set_option maxHeartbeats 4000000 in
theorem part59_spec (c : Dev nD) (v2 : BitVec 32) (O : CellTallies nD τ sig Unit) (W : Waits sig Unit) (Q : (BitVec 32) → sProp 𝕄) :
    iprop(copyRes m K agS agR c 0 20
      ∗ ((chunk outM c 0).view.loc (c : Thread nD τ) ↦[(chunk outM c 0).view.set]{shr 20} (chunk outM c 0).view.rep (reduced m c 0))
      ∗ (∃ f, ((chunk outM c 0).view.loc (fwd c 20 : Thread nD τ) ↦[(chunk outM c 0).view.set]{fullShare} f))
      ∗ copyRes m K agS agR c 0 21
      ∗ ((chunk outM c 0).view.loc (c : Thread nD τ) ↦[(chunk outM c 0).view.set]{shr 21} (chunk outM c 0).view.rep (reduced m c 0))
      ∗ (∃ f, ((chunk outM c 0).view.loc (fwd c 21 : Thread nD τ) ↦[(chunk outM c 0).view.set]{fullShare} f))
      ∗ copyRes m K agS agR c 0 22
      ∗ ((chunk outM c 0).view.loc (c : Thread nD τ) ↦[(chunk outM c 0).view.set]{shr 22} (chunk outM c 0).view.rep (reduced m c 0))
      ∗ (∃ f, ((chunk outM c 0).view.loc (fwd c 22 : Thread nD τ) ↦[(chunk outM c 0).view.set]{fullShare} f))
      ∗ owes (c : Thread nD τ) (O + tallyAt (dmaCell (fwd c 22) agR 0 22) () Nc + tallyAt (dmaCell (fwd c 21) agR 0 21) () Nc + tallyAt (dmaCell (fwd c 20) agR 0 20) () Nc) W
      ∗ (∀ r, (recvRes m K agS c 0 20
        ∗ recvRes m K agS c 0 21
        ∗ recvRes m K agS c 0 22
        ∗ owes (c : Thread nD τ) (O) (W)) -∗ Q r))
      ⊢ wp frame (wpE (defs₀ (F := F)) 𝒱₀ c none) Set.univ (k0_part59 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS0_20, TSagS0_20, #RSagS0_20, ASagS0_20, #IDagS0_20, TDagS0_20, #RDagS0_20⟩, SrcagS0_20, ⟨%gagS0_20, DstagS0_20⟩, ⟨#ISagS0_21, TSagS0_21, #RSagS0_21, ASagS0_21, #IDagS0_21, TDagS0_21, #RDagS0_21⟩, SrcagS0_21, ⟨%gagS0_21, DstagS0_21⟩, ⟨#ISagS0_22, TSagS0_22, #RSagS0_22, ASagS0_22, #IDagS0_22, TDagS0_22, #RDagS0_22⟩, SrcagS0_22, ⟨%gagS0_22, DstagS0_22⟩, HO, Hk⟩
  sl_exec_parts (disch := simp only [dev113_eq, dev114_eq, dev115_eq])
  iapply (wp_send_ag m K c 0 20 (by decide) gagS0_20 (W) (O + tallyAt (dmaCell (fwd c 22) agR 0 22) () Nc + tallyAt (dmaCell (fwd c 21) agR 0 21) () Nc + tallyAt (dmaCell (fwd c 20) agR 0 20) () Nc) (O + tallyAt (dmaCell (fwd c 22) agR 0 22) () Nc + tallyAt (dmaCell (fwd c 21) agR 0 21) () Nc) rfl) $$ [TSagS0_20 TDagS0_20 SrcagS0_20 DstagS0_20 HO]
  · isplitr; · iexact ISagS0_20
    isplitr; · iexact IDagS0_20
    isplitl [SrcagS0_20]; · iexact SrcagS0_20
    isplitl [DstagS0_20]; · iexact DstagS0_20
    isplitl [HO]; · iexact HO
    isplitl [TSagS0_20]; · iexact TSagS0_20
    isplitr; · iexact RSagS0_20
    isplitl [TDagS0_20]; · iexact TDagS0_20
    iexact RDagS0_20
  iintro ⟨CSagS0_20, HO⟩
  sl_exec_parts (disch := simp only [dev113_eq, dev114_eq, dev115_eq])
  iapply (wp_send_ag m K c 0 21 (by decide) gagS0_21 (W) (O + tallyAt (dmaCell (fwd c 22) agR 0 22) () Nc + tallyAt (dmaCell (fwd c 21) agR 0 21) () Nc) (O + tallyAt (dmaCell (fwd c 22) agR 0 22) () Nc) rfl) $$ [TSagS0_21 TDagS0_21 SrcagS0_21 DstagS0_21 HO]
  · isplitr; · iexact ISagS0_21
    isplitr; · iexact IDagS0_21
    isplitl [SrcagS0_21]; · iexact SrcagS0_21
    isplitl [DstagS0_21]; · iexact DstagS0_21
    isplitl [HO]; · iexact HO
    isplitl [TSagS0_21]; · iexact TSagS0_21
    isplitr; · iexact RSagS0_21
    isplitl [TDagS0_21]; · iexact TDagS0_21
    iexact RDagS0_21
  iintro ⟨CSagS0_21, HO⟩
  sl_exec_parts (disch := simp only [dev113_eq, dev114_eq, dev115_eq])
  iapply (wp_send_ag m K c 0 22 (by decide) gagS0_22 (W) (O + tallyAt (dmaCell (fwd c 22) agR 0 22) () Nc) (O) rfl) $$ [TSagS0_22 TDagS0_22 SrcagS0_22 DstagS0_22 HO]
  · isplitr; · iexact ISagS0_22
    isplitr; · iexact IDagS0_22
    isplitl [SrcagS0_22]; · iexact SrcagS0_22
    isplitl [DstagS0_22]; · iexact DstagS0_22
    isplitl [HO]; · iexact HO
    isplitl [TSagS0_22]; · iexact TSagS0_22
    isplitr; · iexact RSagS0_22
    isplitl [TDagS0_22]; · iexact TDagS0_22
    iexact RDagS0_22
  iintro ⟨CSagS0_22, HO⟩
  sl_exec_parts (disch := simp only [dev113_eq, dev114_eq, dev115_eq])
  sl_step
  iapply Hk
  isplitl [ASagS0_20 CSagS0_20]
  · (try unfold recvRes)
    isplitr; · iexact ISagS0_20
    isplitl [ASagS0_20]; · iexact ASagS0_20
    iexact CSagS0_20
  isplitl [ASagS0_21 CSagS0_21]
  · (try unfold recvRes)
    isplitr; · iexact ISagS0_21
    isplitl [ASagS0_21]; · iexact ASagS0_21
    iexact CSagS0_21
  isplitl [ASagS0_22 CSagS0_22]
  · (try unfold recvRes)
    isplitr; · iexact ISagS0_22
    isplitl [ASagS0_22]; · iexact ASagS0_22
    iexact CSagS0_22
  iexact HO

attribute [local sl_rounds] duties_dma amount_dma expect_dma in
set_option maxHeartbeats 4000000 in
theorem part60_spec (c : Dev nD) (v2 : BitVec 32) (v1531 : BitVec 32) (O : CellTallies nD τ sig Unit) (W : Waits sig Unit) (Q : (PUnit) → sProp 𝕄) :
    iprop(copyRes m K agS agR c 0 23
      ∗ ((chunk outM c 0).view.loc (c : Thread nD τ) ↦[(chunk outM c 0).view.set]{shr 23} (chunk outM c 0).view.rep (reduced m c 0))
      ∗ (∃ f, ((chunk outM c 0).view.loc (fwd c 23 : Thread nD τ) ↦[(chunk outM c 0).view.set]{fullShare} f))
      ∗ copyRes m K agS agR c 0 24
      ∗ ((chunk outM c 0).view.loc (c : Thread nD τ) ↦[(chunk outM c 0).view.set]{shr 24} (chunk outM c 0).view.rep (reduced m c 0))
      ∗ (∃ f, ((chunk outM c 0).view.loc (fwd c 24 : Thread nD τ) ↦[(chunk outM c 0).view.set]{fullShare} f))
      ∗ owes (c : Thread nD τ) (O + tallyAt (dmaCell (fwd c 24) agR 0 24) () Nc + tallyAt (dmaCell (fwd c 23) agR 0 23) () Nc) W
      ∗ (∀ r, (recvRes m K agS c 0 23
        ∗ recvRes m K agS c 0 24
        ∗ owes (c : Thread nD τ) (O) (W)) -∗ Q r))
      ⊢ wp frame (wpE (defs₀ (F := F)) 𝒱₀ c none) Set.univ (k0_part60 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1531) Q := by
  unfold copyRes
  iintro ⟨⟨#ISagS0_23, TSagS0_23, #RSagS0_23, ASagS0_23, #IDagS0_23, TDagS0_23, #RDagS0_23⟩, SrcagS0_23, ⟨%gagS0_23, DstagS0_23⟩, ⟨#ISagS0_24, TSagS0_24, #RSagS0_24, ASagS0_24, #IDagS0_24, TDagS0_24, #RDagS0_24⟩, SrcagS0_24, ⟨%gagS0_24, DstagS0_24⟩, HO, Hk⟩
  sl_exec_parts (disch := simp only [dev116_eq, dev117_eq])
  iapply (wp_send_ag m K c 0 23 (by decide) gagS0_23 (W) (O + tallyAt (dmaCell (fwd c 24) agR 0 24) () Nc + tallyAt (dmaCell (fwd c 23) agR 0 23) () Nc) (O + tallyAt (dmaCell (fwd c 24) agR 0 24) () Nc) rfl) $$ [TSagS0_23 TDagS0_23 SrcagS0_23 DstagS0_23 HO]
  · isplitr; · iexact ISagS0_23
    isplitr; · iexact IDagS0_23
    isplitl [SrcagS0_23]; · iexact SrcagS0_23
    isplitl [DstagS0_23]; · iexact DstagS0_23
    isplitl [HO]; · iexact HO
    isplitl [TSagS0_23]; · iexact TSagS0_23
    isplitr; · iexact RSagS0_23
    isplitl [TDagS0_23]; · iexact TDagS0_23
    iexact RDagS0_23
  iintro ⟨CSagS0_23, HO⟩
  sl_exec_parts (disch := simp only [dev116_eq, dev117_eq])
  iapply (wp_send_ag m K c 0 24 (by decide) gagS0_24 (W) (O + tallyAt (dmaCell (fwd c 24) agR 0 24) () Nc) (O) rfl) $$ [TSagS0_24 TDagS0_24 SrcagS0_24 DstagS0_24 HO]
  · isplitr; · iexact ISagS0_24
    isplitr; · iexact IDagS0_24
    isplitl [SrcagS0_24]; · iexact SrcagS0_24
    isplitl [DstagS0_24]; · iexact DstagS0_24
    isplitl [HO]; · iexact HO
    isplitl [TSagS0_24]; · iexact TSagS0_24
    isplitr; · iexact RSagS0_24
    isplitl [TDagS0_24]; · iexact TDagS0_24
    iexact RDagS0_24
  iintro ⟨CSagS0_24, HO⟩
  sl_exec_parts (disch := simp only [dev116_eq, dev117_eq])
  sl_step
  iapply Hk
  isplitl [ASagS0_23 CSagS0_23]
  · (try unfold recvRes)
    isplitr; · iexact ISagS0_23
    isplitl [ASagS0_23]; · iexact ASagS0_23
    iexact CSagS0_23
  isplitl [ASagS0_24 CSagS0_24]
  · (try unfold recvRes)
    isplitr; · iexact ISagS0_24
    isplitl [ASagS0_24]; · iexact ASagS0_24
    iexact CSagS0_24
  iexact HO

attribute [local sl_rounds] duties_dma amount_dma expect_dma in
set_option maxHeartbeats 4000000 in
theorem part61_spec (c : Dev nD) (v2 : BitVec 32) (O : CellTallies nD τ sig Unit) (W : Waits sig Unit) (Q : (BitVec 32) → sProp 𝕄) :
    iprop(copyRes m K agS agR c 0 25
      ∗ ((chunk outM c 0).view.loc (c : Thread nD τ) ↦[(chunk outM c 0).view.set]{shr 25} (chunk outM c 0).view.rep (reduced m c 0))
      ∗ (∃ f, ((chunk outM c 0).view.loc (fwd c 25 : Thread nD τ) ↦[(chunk outM c 0).view.set]{fullShare} f))
      ∗ copyRes m K agS agR c 0 26
      ∗ ((chunk outM c 0).view.loc (c : Thread nD τ) ↦[(chunk outM c 0).view.set]{shr 26} (chunk outM c 0).view.rep (reduced m c 0))
      ∗ (∃ f, ((chunk outM c 0).view.loc (fwd c 26 : Thread nD τ) ↦[(chunk outM c 0).view.set]{fullShare} f))
      ∗ copyRes m K agS agR c 0 27
      ∗ ((chunk outM c 0).view.loc (c : Thread nD τ) ↦[(chunk outM c 0).view.set]{shr 27} (chunk outM c 0).view.rep (reduced m c 0))
      ∗ (∃ f, ((chunk outM c 0).view.loc (fwd c 27 : Thread nD τ) ↦[(chunk outM c 0).view.set]{fullShare} f))
      ∗ owes (c : Thread nD τ) (O + tallyAt (dmaCell (fwd c 27) agR 0 27) () Nc + tallyAt (dmaCell (fwd c 26) agR 0 26) () Nc + tallyAt (dmaCell (fwd c 25) agR 0 25) () Nc) W
      ∗ (∀ r, (recvRes m K agS c 0 25
        ∗ recvRes m K agS c 0 26
        ∗ recvRes m K agS c 0 27
        ∗ owes (c : Thread nD τ) (O) (W)) -∗ Q r))
      ⊢ wp frame (wpE (defs₀ (F := F)) 𝒱₀ c none) Set.univ (k0_part61 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS0_25, TSagS0_25, #RSagS0_25, ASagS0_25, #IDagS0_25, TDagS0_25, #RDagS0_25⟩, SrcagS0_25, ⟨%gagS0_25, DstagS0_25⟩, ⟨#ISagS0_26, TSagS0_26, #RSagS0_26, ASagS0_26, #IDagS0_26, TDagS0_26, #RDagS0_26⟩, SrcagS0_26, ⟨%gagS0_26, DstagS0_26⟩, ⟨#ISagS0_27, TSagS0_27, #RSagS0_27, ASagS0_27, #IDagS0_27, TDagS0_27, #RDagS0_27⟩, SrcagS0_27, ⟨%gagS0_27, DstagS0_27⟩, HO, Hk⟩
  sl_exec_parts (disch := simp only [dev118_eq, dev119_eq, dev120_eq])
  iapply (wp_send_ag m K c 0 25 (by decide) gagS0_25 (W) (O + tallyAt (dmaCell (fwd c 27) agR 0 27) () Nc + tallyAt (dmaCell (fwd c 26) agR 0 26) () Nc + tallyAt (dmaCell (fwd c 25) agR 0 25) () Nc) (O + tallyAt (dmaCell (fwd c 27) agR 0 27) () Nc + tallyAt (dmaCell (fwd c 26) agR 0 26) () Nc) rfl) $$ [TSagS0_25 TDagS0_25 SrcagS0_25 DstagS0_25 HO]
  · isplitr; · iexact ISagS0_25
    isplitr; · iexact IDagS0_25
    isplitl [SrcagS0_25]; · iexact SrcagS0_25
    isplitl [DstagS0_25]; · iexact DstagS0_25
    isplitl [HO]; · iexact HO
    isplitl [TSagS0_25]; · iexact TSagS0_25
    isplitr; · iexact RSagS0_25
    isplitl [TDagS0_25]; · iexact TDagS0_25
    iexact RDagS0_25
  iintro ⟨CSagS0_25, HO⟩
  sl_exec_parts (disch := simp only [dev118_eq, dev119_eq, dev120_eq])
  iapply (wp_send_ag m K c 0 26 (by decide) gagS0_26 (W) (O + tallyAt (dmaCell (fwd c 27) agR 0 27) () Nc + tallyAt (dmaCell (fwd c 26) agR 0 26) () Nc) (O + tallyAt (dmaCell (fwd c 27) agR 0 27) () Nc) rfl) $$ [TSagS0_26 TDagS0_26 SrcagS0_26 DstagS0_26 HO]
  · isplitr; · iexact ISagS0_26
    isplitr; · iexact IDagS0_26
    isplitl [SrcagS0_26]; · iexact SrcagS0_26
    isplitl [DstagS0_26]; · iexact DstagS0_26
    isplitl [HO]; · iexact HO
    isplitl [TSagS0_26]; · iexact TSagS0_26
    isplitr; · iexact RSagS0_26
    isplitl [TDagS0_26]; · iexact TDagS0_26
    iexact RDagS0_26
  iintro ⟨CSagS0_26, HO⟩
  sl_exec_parts (disch := simp only [dev118_eq, dev119_eq, dev120_eq])
  iapply (wp_send_ag m K c 0 27 (by decide) gagS0_27 (W) (O + tallyAt (dmaCell (fwd c 27) agR 0 27) () Nc) (O) rfl) $$ [TSagS0_27 TDagS0_27 SrcagS0_27 DstagS0_27 HO]
  · isplitr; · iexact ISagS0_27
    isplitr; · iexact IDagS0_27
    isplitl [SrcagS0_27]; · iexact SrcagS0_27
    isplitl [DstagS0_27]; · iexact DstagS0_27
    isplitl [HO]; · iexact HO
    isplitl [TSagS0_27]; · iexact TSagS0_27
    isplitr; · iexact RSagS0_27
    isplitl [TDagS0_27]; · iexact TDagS0_27
    iexact RDagS0_27
  iintro ⟨CSagS0_27, HO⟩
  sl_exec_parts (disch := simp only [dev118_eq, dev119_eq, dev120_eq])
  sl_step
  iapply Hk
  isplitl [ASagS0_25 CSagS0_25]
  · (try unfold recvRes)
    isplitr; · iexact ISagS0_25
    isplitl [ASagS0_25]; · iexact ASagS0_25
    iexact CSagS0_25
  isplitl [ASagS0_26 CSagS0_26]
  · (try unfold recvRes)
    isplitr; · iexact ISagS0_26
    isplitl [ASagS0_26]; · iexact ASagS0_26
    iexact CSagS0_26
  isplitl [ASagS0_27 CSagS0_27]
  · (try unfold recvRes)
    isplitr; · iexact ISagS0_27
    isplitl [ASagS0_27]; · iexact ASagS0_27
    iexact CSagS0_27
  iexact HO

attribute [local sl_rounds] duties_dma amount_dma expect_dma in
set_option maxHeartbeats 4000000 in
theorem part62_spec (c : Dev nD) (v2 : BitVec 32) (c28_i32_1872 : BitVec 32) (O : CellTallies nD τ sig Unit) (W : Waits sig Unit) (Q : (BitVec 32) → sProp 𝕄) :
    iprop(copyRes m K agS agR c 0 28
      ∗ ((chunk outM c 0).view.loc (c : Thread nD τ) ↦[(chunk outM c 0).view.set]{shr 28} (chunk outM c 0).view.rep (reduced m c 0))
      ∗ (∃ f, ((chunk outM c 0).view.loc (fwd c 28 : Thread nD τ) ↦[(chunk outM c 0).view.set]{fullShare} f))
      ∗ copyRes m K agS agR c 0 29
      ∗ ((chunk outM c 0).view.loc (c : Thread nD τ) ↦[(chunk outM c 0).view.set]{shr 29} (chunk outM c 0).view.rep (reduced m c 0))
      ∗ (∃ f, ((chunk outM c 0).view.loc (fwd c 29 : Thread nD τ) ↦[(chunk outM c 0).view.set]{fullShare} f))
      ∗ owes (c : Thread nD τ) (O + tallyAt (dmaCell (fwd c 29) agR 0 29) () Nc + tallyAt (dmaCell (fwd c 28) agR 0 28) () Nc) W
      ∗ (∀ r, (recvRes m K agS c 0 28
        ∗ recvRes m K agS c 0 29
        ∗ owes (c : Thread nD τ) (O) (W)) -∗ Q r))
      ⊢ wp frame (wpE (defs₀ (F := F)) 𝒱₀ c none) Set.univ (k0_part62 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 c28_i32_1872) Q := by
  unfold copyRes
  iintro ⟨⟨#ISagS0_28, TSagS0_28, #RSagS0_28, ASagS0_28, #IDagS0_28, TDagS0_28, #RDagS0_28⟩, SrcagS0_28, ⟨%gagS0_28, DstagS0_28⟩, ⟨#ISagS0_29, TSagS0_29, #RSagS0_29, ASagS0_29, #IDagS0_29, TDagS0_29, #RDagS0_29⟩, SrcagS0_29, ⟨%gagS0_29, DstagS0_29⟩, HO, Hk⟩
  sl_exec_parts (disch := simp only [dev121_eq, dev122_eq])
  iapply (wp_send_ag m K c 0 28 (by decide) gagS0_28 (W) (O + tallyAt (dmaCell (fwd c 29) agR 0 29) () Nc + tallyAt (dmaCell (fwd c 28) agR 0 28) () Nc) (O + tallyAt (dmaCell (fwd c 29) agR 0 29) () Nc) rfl) $$ [TSagS0_28 TDagS0_28 SrcagS0_28 DstagS0_28 HO]
  · isplitr; · iexact ISagS0_28
    isplitr; · iexact IDagS0_28
    isplitl [SrcagS0_28]; · iexact SrcagS0_28
    isplitl [DstagS0_28]; · iexact DstagS0_28
    isplitl [HO]; · iexact HO
    isplitl [TSagS0_28]; · iexact TSagS0_28
    isplitr; · iexact RSagS0_28
    isplitl [TDagS0_28]; · iexact TDagS0_28
    iexact RDagS0_28
  iintro ⟨CSagS0_28, HO⟩
  sl_exec_parts (disch := simp only [dev121_eq, dev122_eq])
  iapply (wp_send_ag m K c 0 29 (by decide) gagS0_29 (W) (O + tallyAt (dmaCell (fwd c 29) agR 0 29) () Nc) (O) rfl) $$ [TSagS0_29 TDagS0_29 SrcagS0_29 DstagS0_29 HO]
  · isplitr; · iexact ISagS0_29
    isplitr; · iexact IDagS0_29
    isplitl [SrcagS0_29]; · iexact SrcagS0_29
    isplitl [DstagS0_29]; · iexact DstagS0_29
    isplitl [HO]; · iexact HO
    isplitl [TSagS0_29]; · iexact TSagS0_29
    isplitr; · iexact RSagS0_29
    isplitl [TDagS0_29]; · iexact TDagS0_29
    iexact RDagS0_29
  iintro ⟨CSagS0_29, HO⟩
  sl_exec_parts (disch := simp only [dev121_eq, dev122_eq])
  sl_step
  iapply Hk
  isplitl [ASagS0_28 CSagS0_28]
  · (try unfold recvRes)
    isplitr; · iexact ISagS0_28
    isplitl [ASagS0_28]; · iexact ASagS0_28
    iexact CSagS0_28
  isplitl [ASagS0_29 CSagS0_29]
  · (try unfold recvRes)
    isplitr; · iexact ISagS0_29
    isplitl [ASagS0_29]; · iexact ASagS0_29
    iexact CSagS0_29
  iexact HO

attribute [local sl_rounds] duties_dma amount_dma expect_dma in
set_option maxHeartbeats 4000000 in
theorem part63_spec (c : Dev nD) (v2 : BitVec 32) (v1615 : BitVec 32) (O : CellTallies nD τ sig Unit) (W : Waits sig Unit) (Q : (PUnit) → sProp 𝕄) :
    iprop(copyRes m K agS agR c 0 30
      ∗ ((chunk outM c 0).view.loc (c : Thread nD τ) ↦[(chunk outM c 0).view.set]{shr 30} (chunk outM c 0).view.rep (reduced m c 0))
      ∗ (∃ f, ((chunk outM c 0).view.loc (fwd c 30 : Thread nD τ) ↦[(chunk outM c 0).view.set]{fullShare} f))
      ∗ copyRes m K agS agR c 0 31
      ∗ ((chunk outM c 0).view.loc (c : Thread nD τ) ↦[(chunk outM c 0).view.set]{shr 31} (chunk outM c 0).view.rep (reduced m c 0))
      ∗ (∃ f, ((chunk outM c 0).view.loc (fwd c 31 : Thread nD τ) ↦[(chunk outM c 0).view.set]{fullShare} f))
      ∗ owes (c : Thread nD τ) (O + tallyAt (dmaCell (fwd c 31) agR 0 31) () Nc + tallyAt (dmaCell (fwd c 30) agR 0 30) () Nc) W
      ∗ (∀ r, (recvRes m K agS c 0 30
        ∗ recvRes m K agS c 0 31
        ∗ owes (c : Thread nD τ) (O) (W)) -∗ Q r))
      ⊢ wp frame (wpE (defs₀ (F := F)) 𝒱₀ c none) Set.univ (k0_part63 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1615) Q := by
  unfold copyRes
  iintro ⟨⟨#ISagS0_30, TSagS0_30, #RSagS0_30, ASagS0_30, #IDagS0_30, TDagS0_30, #RDagS0_30⟩, SrcagS0_30, ⟨%gagS0_30, DstagS0_30⟩, ⟨#ISagS0_31, TSagS0_31, #RSagS0_31, ASagS0_31, #IDagS0_31, TDagS0_31, #RDagS0_31⟩, SrcagS0_31, ⟨%gagS0_31, DstagS0_31⟩, HO, Hk⟩
  sl_exec_parts (disch := simp only [dev123_eq, dev124_eq])
  iapply (wp_send_ag m K c 0 30 (by decide) gagS0_30 (W) (O + tallyAt (dmaCell (fwd c 31) agR 0 31) () Nc + tallyAt (dmaCell (fwd c 30) agR 0 30) () Nc) (O + tallyAt (dmaCell (fwd c 31) agR 0 31) () Nc) rfl) $$ [TSagS0_30 TDagS0_30 SrcagS0_30 DstagS0_30 HO]
  · isplitr; · iexact ISagS0_30
    isplitr; · iexact IDagS0_30
    isplitl [SrcagS0_30]; · iexact SrcagS0_30
    isplitl [DstagS0_30]; · iexact DstagS0_30
    isplitl [HO]; · iexact HO
    isplitl [TSagS0_30]; · iexact TSagS0_30
    isplitr; · iexact RSagS0_30
    isplitl [TDagS0_30]; · iexact TDagS0_30
    iexact RDagS0_30
  iintro ⟨CSagS0_30, HO⟩
  sl_exec_parts (disch := simp only [dev123_eq, dev124_eq])
  iapply (wp_send_ag m K c 0 31 (by decide) gagS0_31 (W) (O + tallyAt (dmaCell (fwd c 31) agR 0 31) () Nc) (O) rfl) $$ [TSagS0_31 TDagS0_31 SrcagS0_31 DstagS0_31 HO]
  · isplitr; · iexact ISagS0_31
    isplitr; · iexact IDagS0_31
    isplitl [SrcagS0_31]; · iexact SrcagS0_31
    isplitl [DstagS0_31]; · iexact DstagS0_31
    isplitl [HO]; · iexact HO
    isplitl [TSagS0_31]; · iexact TSagS0_31
    isplitr; · iexact RSagS0_31
    isplitl [TDagS0_31]; · iexact TDagS0_31
    iexact RDagS0_31
  iintro ⟨CSagS0_31, HO⟩
  sl_exec_parts (disch := simp only [dev123_eq, dev124_eq])
  sl_step
  iapply Hk
  isplitl [ASagS0_30 CSagS0_30]
  · (try unfold recvRes)
    isplitr; · iexact ISagS0_30
    isplitl [ASagS0_30]; · iexact ASagS0_30
    iexact CSagS0_30
  isplitl [ASagS0_31 CSagS0_31]
  · (try unfold recvRes)
    isplitr; · iexact ISagS0_31
    isplitl [ASagS0_31]; · iexact ASagS0_31
    iexact CSagS0_31
  iexact HO

end Cert.KernelIdeal.AllReduce

end
-- ==== Proof.BodyCopiesD.lean ====
/-
  The copies of the gather phase, half 1 (and the first send waits of the reduce phase).
  One statement per printed part of the kernel body, over the resources that part touches and nothing else.
-/
import proofs.«900438_g7700000000000439_dist_gemm_ar_m1024_k1024_n1024_f32_gelu_v7x_i32_1_alg».proof.Proof.BodyTables
noncomputable section
namespace Cert.KernelIdeal.AllReduce
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma in
set_option maxHeartbeats 4000000 in
theorem part80_spec (c : Dev nD) (v2 : BitVec 32) (O : CellTallies nD τ sig Unit) (W : Waits sig Unit) (Q : (Σ' (v2051 : BitVec 32), BitVec 32) → sProp 𝕄) :
    iprop(copyRes m K agS agR c 1 2
      ∗ ((chunk outM c 1).view.loc (c : Thread nD τ) ↦[(chunk outM c 1).view.set]{shr 2} (chunk outM c 1).view.rep (reduced m c 1))
      ∗ (∃ f, ((chunk outM c 1).view.loc (fwd c 2 : Thread nD τ) ↦[(chunk outM c 1).view.set]{fullShare} f))
      ∗ copyRes m K agS agR c 1 3
      ∗ ((chunk outM c 1).view.loc (c : Thread nD τ) ↦[(chunk outM c 1).view.set]{shr 3} (chunk outM c 1).view.rep (reduced m c 1))
      ∗ (∃ f, ((chunk outM c 1).view.loc (fwd c 3 : Thread nD τ) ↦[(chunk outM c 1).view.set]{fullShare} f))
      ∗ copyRes m K agS agR c 1 4
      ∗ ((chunk outM c 1).view.loc (c : Thread nD τ) ↦[(chunk outM c 1).view.set]{shr 4} (chunk outM c 1).view.rep (reduced m c 1))
      ∗ (∃ f, ((chunk outM c 1).view.loc (fwd c 4 : Thread nD τ) ↦[(chunk outM c 1).view.set]{fullShare} f))
      ∗ owes (c : Thread nD τ) (O + tallyAt (dmaCell (fwd c 4) agR 1 4) () Nc + tallyAt (dmaCell (fwd c 3) agR 1 3) () Nc + tallyAt (dmaCell (fwd c 2) agR 1 2) () Nc) W
      ∗ (∀ r, (recvRes m K agS c 1 2
        ∗ recvRes m K agS c 1 3
        ∗ recvRes m K agS c 1 4
        ∗ owes (c : Thread nD τ) (O) (W)) -∗ Q r))
      ⊢ wp frame (wpE (defs₀ (F := F)) 𝒱₀ c none) Set.univ (k0_part80 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS1_2, TSagS1_2, #RSagS1_2, ASagS1_2, #IDagS1_2, TDagS1_2, #RDagS1_2⟩, SrcagS1_2, ⟨%gagS1_2, DstagS1_2⟩, ⟨#ISagS1_3, TSagS1_3, #RSagS1_3, ASagS1_3, #IDagS1_3, TDagS1_3, #RDagS1_3⟩, SrcagS1_3, ⟨%gagS1_3, DstagS1_3⟩, ⟨#ISagS1_4, TSagS1_4, #RSagS1_4, ASagS1_4, #IDagS1_4, TDagS1_4, #RDagS1_4⟩, SrcagS1_4, ⟨%gagS1_4, DstagS1_4⟩, HO, Hk⟩
  sl_exec_parts (disch := simp only [dev126_eq, dev127_eq, dev128_eq])
  iapply (wp_send_ag m K c 1 2 (by decide) gagS1_2 (W) (O + tallyAt (dmaCell (fwd c 4) agR 1 4) () Nc + tallyAt (dmaCell (fwd c 3) agR 1 3) () Nc + tallyAt (dmaCell (fwd c 2) agR 1 2) () Nc) (O + tallyAt (dmaCell (fwd c 4) agR 1 4) () Nc + tallyAt (dmaCell (fwd c 3) agR 1 3) () Nc) rfl) $$ [TSagS1_2 TDagS1_2 SrcagS1_2 DstagS1_2 HO]
  · isplitr; · iexact ISagS1_2
    isplitr; · iexact IDagS1_2
    isplitl [SrcagS1_2]; · iexact SrcagS1_2
    isplitl [DstagS1_2]; · iexact DstagS1_2
    isplitl [HO]; · iexact HO
    isplitl [TSagS1_2]; · iexact TSagS1_2
    isplitr; · iexact RSagS1_2
    isplitl [TDagS1_2]; · iexact TDagS1_2
    iexact RDagS1_2
  iintro ⟨CSagS1_2, HO⟩
  sl_exec_parts (disch := simp only [dev126_eq, dev127_eq, dev128_eq])
  iapply (wp_send_ag m K c 1 3 (by decide) gagS1_3 (W) (O + tallyAt (dmaCell (fwd c 4) agR 1 4) () Nc + tallyAt (dmaCell (fwd c 3) agR 1 3) () Nc) (O + tallyAt (dmaCell (fwd c 4) agR 1 4) () Nc) rfl) $$ [TSagS1_3 TDagS1_3 SrcagS1_3 DstagS1_3 HO]
  · isplitr; · iexact ISagS1_3
    isplitr; · iexact IDagS1_3
    isplitl [SrcagS1_3]; · iexact SrcagS1_3
    isplitl [DstagS1_3]; · iexact DstagS1_3
    isplitl [HO]; · iexact HO
    isplitl [TSagS1_3]; · iexact TSagS1_3
    isplitr; · iexact RSagS1_3
    isplitl [TDagS1_3]; · iexact TDagS1_3
    iexact RDagS1_3
  iintro ⟨CSagS1_3, HO⟩
  sl_exec_parts (disch := simp only [dev126_eq, dev127_eq, dev128_eq])
  iapply (wp_send_ag m K c 1 4 (by decide) gagS1_4 (W) (O + tallyAt (dmaCell (fwd c 4) agR 1 4) () Nc) (O) rfl) $$ [TSagS1_4 TDagS1_4 SrcagS1_4 DstagS1_4 HO]
  · isplitr; · iexact ISagS1_4
    isplitr; · iexact IDagS1_4
    isplitl [SrcagS1_4]; · iexact SrcagS1_4
    isplitl [DstagS1_4]; · iexact DstagS1_4
    isplitl [HO]; · iexact HO
    isplitl [TSagS1_4]; · iexact TSagS1_4
    isplitr; · iexact RSagS1_4
    isplitl [TDagS1_4]; · iexact TDagS1_4
    iexact RDagS1_4
  iintro ⟨CSagS1_4, HO⟩
  sl_exec_parts (disch := simp only [dev126_eq, dev127_eq, dev128_eq])
  sl_step
  iapply Hk
  isplitl [ASagS1_2 CSagS1_2]
  · (try unfold recvRes)
    isplitr; · iexact ISagS1_2
    isplitl [ASagS1_2]; · iexact ASagS1_2
    iexact CSagS1_2
  isplitl [ASagS1_3 CSagS1_3]
  · (try unfold recvRes)
    isplitr; · iexact ISagS1_3
    isplitl [ASagS1_3]; · iexact ASagS1_3
    iexact CSagS1_3
  isplitl [ASagS1_4 CSagS1_4]
  · (try unfold recvRes)
    isplitr; · iexact ISagS1_4
    isplitl [ASagS1_4]; · iexact ASagS1_4
    iexact CSagS1_4
  iexact HO

attribute [local sl_rounds] duties_dma amount_dma expect_dma in
set_option maxHeartbeats 4000000 in
theorem part81_spec (c : Dev nD) (v2 : BitVec 32) (v2051 : BitVec 32) (c32_i32_2509 : BitVec 32) (O : CellTallies nD τ sig Unit) (W : Waits sig Unit) (Q : (PUnit) → sProp 𝕄) :
    iprop(copyRes m K agS agR c 1 5
      ∗ ((chunk outM c 1).view.loc (c : Thread nD τ) ↦[(chunk outM c 1).view.set]{shr 5} (chunk outM c 1).view.rep (reduced m c 1))
      ∗ (∃ f, ((chunk outM c 1).view.loc (fwd c 5 : Thread nD τ) ↦[(chunk outM c 1).view.set]{fullShare} f))
      ∗ copyRes m K agS agR c 1 6
      ∗ ((chunk outM c 1).view.loc (c : Thread nD τ) ↦[(chunk outM c 1).view.set]{shr 6} (chunk outM c 1).view.rep (reduced m c 1))
      ∗ (∃ f, ((chunk outM c 1).view.loc (fwd c 6 : Thread nD τ) ↦[(chunk outM c 1).view.set]{fullShare} f))
      ∗ owes (c : Thread nD τ) (O + tallyAt (dmaCell (fwd c 6) agR 1 6) () Nc + tallyAt (dmaCell (fwd c 5) agR 1 5) () Nc) W
      ∗ (∀ r, (recvRes m K agS c 1 5
        ∗ recvRes m K agS c 1 6
        ∗ owes (c : Thread nD τ) (O) (W)) -∗ Q r))
      ⊢ wp frame (wpE (defs₀ (F := F)) 𝒱₀ c none) Set.univ (k0_part81 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2051 c32_i32_2509) Q := by
  unfold copyRes
  iintro ⟨⟨#ISagS1_5, TSagS1_5, #RSagS1_5, ASagS1_5, #IDagS1_5, TDagS1_5, #RDagS1_5⟩, SrcagS1_5, ⟨%gagS1_5, DstagS1_5⟩, ⟨#ISagS1_6, TSagS1_6, #RSagS1_6, ASagS1_6, #IDagS1_6, TDagS1_6, #RDagS1_6⟩, SrcagS1_6, ⟨%gagS1_6, DstagS1_6⟩, HO, Hk⟩
  sl_exec_parts (disch := simp only [dev129_eq, dev130_eq])
  iapply (wp_send_ag m K c 1 5 (by decide) gagS1_5 (W) (O + tallyAt (dmaCell (fwd c 6) agR 1 6) () Nc + tallyAt (dmaCell (fwd c 5) agR 1 5) () Nc) (O + tallyAt (dmaCell (fwd c 6) agR 1 6) () Nc) rfl) $$ [TSagS1_5 TDagS1_5 SrcagS1_5 DstagS1_5 HO]
  · isplitr; · iexact ISagS1_5
    isplitr; · iexact IDagS1_5
    isplitl [SrcagS1_5]; · iexact SrcagS1_5
    isplitl [DstagS1_5]; · iexact DstagS1_5
    isplitl [HO]; · iexact HO
    isplitl [TSagS1_5]; · iexact TSagS1_5
    isplitr; · iexact RSagS1_5
    isplitl [TDagS1_5]; · iexact TDagS1_5
    iexact RDagS1_5
  iintro ⟨CSagS1_5, HO⟩
  sl_exec_parts (disch := simp only [dev129_eq, dev130_eq])
  iapply (wp_send_ag m K c 1 6 (by decide) gagS1_6 (W) (O + tallyAt (dmaCell (fwd c 6) agR 1 6) () Nc) (O) rfl) $$ [TSagS1_6 TDagS1_6 SrcagS1_6 DstagS1_6 HO]
  · isplitr; · iexact ISagS1_6
    isplitr; · iexact IDagS1_6
    isplitl [SrcagS1_6]; · iexact SrcagS1_6
    isplitl [DstagS1_6]; · iexact DstagS1_6
    isplitl [HO]; · iexact HO
    isplitl [TSagS1_6]; · iexact TSagS1_6
    isplitr; · iexact RSagS1_6
    isplitl [TDagS1_6]; · iexact TDagS1_6
    iexact RDagS1_6
  iintro ⟨CSagS1_6, HO⟩
  sl_exec_parts (disch := simp only [dev129_eq, dev130_eq])
  sl_step
  iapply Hk
  isplitl [ASagS1_5 CSagS1_5]
  · (try unfold recvRes)
    isplitr; · iexact ISagS1_5
    isplitl [ASagS1_5]; · iexact ASagS1_5
    iexact CSagS1_5
  isplitl [ASagS1_6 CSagS1_6]
  · (try unfold recvRes)
    isplitr; · iexact ISagS1_6
    isplitl [ASagS1_6]; · iexact ASagS1_6
    iexact CSagS1_6
  iexact HO

attribute [local sl_rounds] duties_dma amount_dma expect_dma in
set_option maxHeartbeats 4000000 in
theorem part82_spec (c : Dev nD) (v2 : BitVec 32) (O : CellTallies nD τ sig Unit) (W : Waits sig Unit) (Q : (BitVec 32) → sProp 𝕄) :
    iprop(copyRes m K agS agR c 1 7
      ∗ ((chunk outM c 1).view.loc (c : Thread nD τ) ↦[(chunk outM c 1).view.set]{shr 7} (chunk outM c 1).view.rep (reduced m c 1))
      ∗ (∃ f, ((chunk outM c 1).view.loc (fwd c 7 : Thread nD τ) ↦[(chunk outM c 1).view.set]{fullShare} f))
      ∗ copyRes m K agS agR c 1 8
      ∗ ((chunk outM c 1).view.loc (c : Thread nD τ) ↦[(chunk outM c 1).view.set]{shr 8} (chunk outM c 1).view.rep (reduced m c 1))
      ∗ (∃ f, ((chunk outM c 1).view.loc (fwd c 8 : Thread nD τ) ↦[(chunk outM c 1).view.set]{fullShare} f))
      ∗ copyRes m K agS agR c 1 9
      ∗ ((chunk outM c 1).view.loc (c : Thread nD τ) ↦[(chunk outM c 1).view.set]{shr 9} (chunk outM c 1).view.rep (reduced m c 1))
      ∗ (∃ f, ((chunk outM c 1).view.loc (fwd c 9 : Thread nD τ) ↦[(chunk outM c 1).view.set]{fullShare} f))
      ∗ owes (c : Thread nD τ) (O + tallyAt (dmaCell (fwd c 9) agR 1 9) () Nc + tallyAt (dmaCell (fwd c 8) agR 1 8) () Nc + tallyAt (dmaCell (fwd c 7) agR 1 7) () Nc) W
      ∗ (∀ r, (recvRes m K agS c 1 7
        ∗ recvRes m K agS c 1 8
        ∗ recvRes m K agS c 1 9
        ∗ owes (c : Thread nD τ) (O) (W)) -∗ Q r))
      ⊢ wp frame (wpE (defs₀ (F := F)) 𝒱₀ c none) Set.univ (k0_part82 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS1_7, TSagS1_7, #RSagS1_7, ASagS1_7, #IDagS1_7, TDagS1_7, #RDagS1_7⟩, SrcagS1_7, ⟨%gagS1_7, DstagS1_7⟩, ⟨#ISagS1_8, TSagS1_8, #RSagS1_8, ASagS1_8, #IDagS1_8, TDagS1_8, #RDagS1_8⟩, SrcagS1_8, ⟨%gagS1_8, DstagS1_8⟩, ⟨#ISagS1_9, TSagS1_9, #RSagS1_9, ASagS1_9, #IDagS1_9, TDagS1_9, #RDagS1_9⟩, SrcagS1_9, ⟨%gagS1_9, DstagS1_9⟩, HO, Hk⟩
  sl_exec_parts (disch := simp only [dev131_eq, dev132_eq, dev133_eq])
  iapply (wp_send_ag m K c 1 7 (by decide) gagS1_7 (W) (O + tallyAt (dmaCell (fwd c 9) agR 1 9) () Nc + tallyAt (dmaCell (fwd c 8) agR 1 8) () Nc + tallyAt (dmaCell (fwd c 7) agR 1 7) () Nc) (O + tallyAt (dmaCell (fwd c 9) agR 1 9) () Nc + tallyAt (dmaCell (fwd c 8) agR 1 8) () Nc) rfl) $$ [TSagS1_7 TDagS1_7 SrcagS1_7 DstagS1_7 HO]
  · isplitr; · iexact ISagS1_7
    isplitr; · iexact IDagS1_7
    isplitl [SrcagS1_7]; · iexact SrcagS1_7
    isplitl [DstagS1_7]; · iexact DstagS1_7
    isplitl [HO]; · iexact HO
    isplitl [TSagS1_7]; · iexact TSagS1_7
    isplitr; · iexact RSagS1_7
    isplitl [TDagS1_7]; · iexact TDagS1_7
    iexact RDagS1_7
  iintro ⟨CSagS1_7, HO⟩
  sl_exec_parts (disch := simp only [dev131_eq, dev132_eq, dev133_eq])
  iapply (wp_send_ag m K c 1 8 (by decide) gagS1_8 (W) (O + tallyAt (dmaCell (fwd c 9) agR 1 9) () Nc + tallyAt (dmaCell (fwd c 8) agR 1 8) () Nc) (O + tallyAt (dmaCell (fwd c 9) agR 1 9) () Nc) rfl) $$ [TSagS1_8 TDagS1_8 SrcagS1_8 DstagS1_8 HO]
  · isplitr; · iexact ISagS1_8
    isplitr; · iexact IDagS1_8
    isplitl [SrcagS1_8]; · iexact SrcagS1_8
    isplitl [DstagS1_8]; · iexact DstagS1_8
    isplitl [HO]; · iexact HO
    isplitl [TSagS1_8]; · iexact TSagS1_8
    isplitr; · iexact RSagS1_8
    isplitl [TDagS1_8]; · iexact TDagS1_8
    iexact RDagS1_8
  iintro ⟨CSagS1_8, HO⟩
  sl_exec_parts (disch := simp only [dev131_eq, dev132_eq, dev133_eq])
  iapply (wp_send_ag m K c 1 9 (by decide) gagS1_9 (W) (O + tallyAt (dmaCell (fwd c 9) agR 1 9) () Nc) (O) rfl) $$ [TSagS1_9 TDagS1_9 SrcagS1_9 DstagS1_9 HO]
  · isplitr; · iexact ISagS1_9
    isplitr; · iexact IDagS1_9
    isplitl [SrcagS1_9]; · iexact SrcagS1_9
    isplitl [DstagS1_9]; · iexact DstagS1_9
    isplitl [HO]; · iexact HO
    isplitl [TSagS1_9]; · iexact TSagS1_9
    isplitr; · iexact RSagS1_9
    isplitl [TDagS1_9]; · iexact TDagS1_9
    iexact RDagS1_9
  iintro ⟨CSagS1_9, HO⟩
  sl_exec_parts (disch := simp only [dev131_eq, dev132_eq, dev133_eq])
  sl_step
  iapply Hk
  isplitl [ASagS1_7 CSagS1_7]
  · (try unfold recvRes)
    isplitr; · iexact ISagS1_7
    isplitl [ASagS1_7]; · iexact ASagS1_7
    iexact CSagS1_7
  isplitl [ASagS1_8 CSagS1_8]
  · (try unfold recvRes)
    isplitr; · iexact ISagS1_8
    isplitl [ASagS1_8]; · iexact ASagS1_8
    iexact CSagS1_8
  isplitl [ASagS1_9 CSagS1_9]
  · (try unfold recvRes)
    isplitr; · iexact ISagS1_9
    isplitl [ASagS1_9]; · iexact ASagS1_9
    iexact CSagS1_9
  iexact HO

attribute [local sl_rounds] duties_dma amount_dma expect_dma in
set_option maxHeartbeats 4000000 in
theorem part83_spec (c : Dev nD) (v2 : BitVec 32) (v2110 : BitVec 32) (O : CellTallies nD τ sig Unit) (W : Waits sig Unit) (Q : (BitVec 32) → sProp 𝕄) :
    iprop(copyRes m K agS agR c 1 10
      ∗ ((chunk outM c 1).view.loc (c : Thread nD τ) ↦[(chunk outM c 1).view.set]{shr 10} (chunk outM c 1).view.rep (reduced m c 1))
      ∗ (∃ f, ((chunk outM c 1).view.loc (fwd c 10 : Thread nD τ) ↦[(chunk outM c 1).view.set]{fullShare} f))
      ∗ copyRes m K agS agR c 1 11
      ∗ ((chunk outM c 1).view.loc (c : Thread nD τ) ↦[(chunk outM c 1).view.set]{shr 11} (chunk outM c 1).view.rep (reduced m c 1))
      ∗ (∃ f, ((chunk outM c 1).view.loc (fwd c 11 : Thread nD τ) ↦[(chunk outM c 1).view.set]{fullShare} f))
      ∗ owes (c : Thread nD τ) (O + tallyAt (dmaCell (fwd c 11) agR 1 11) () Nc + tallyAt (dmaCell (fwd c 10) agR 1 10) () Nc) W
      ∗ (∀ r, (recvRes m K agS c 1 10
        ∗ recvRes m K agS c 1 11
        ∗ owes (c : Thread nD τ) (O) (W)) -∗ Q r))
      ⊢ wp frame (wpE (defs₀ (F := F)) 𝒱₀ c none) Set.univ (k0_part83 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2110) Q := by
  unfold copyRes
  iintro ⟨⟨#ISagS1_10, TSagS1_10, #RSagS1_10, ASagS1_10, #IDagS1_10, TDagS1_10, #RDagS1_10⟩, SrcagS1_10, ⟨%gagS1_10, DstagS1_10⟩, ⟨#ISagS1_11, TSagS1_11, #RSagS1_11, ASagS1_11, #IDagS1_11, TDagS1_11, #RDagS1_11⟩, SrcagS1_11, ⟨%gagS1_11, DstagS1_11⟩, HO, Hk⟩
  sl_exec_parts (disch := simp only [dev134_eq, dev135_eq])
  iapply (wp_send_ag m K c 1 10 (by decide) gagS1_10 (W) (O + tallyAt (dmaCell (fwd c 11) agR 1 11) () Nc + tallyAt (dmaCell (fwd c 10) agR 1 10) () Nc) (O + tallyAt (dmaCell (fwd c 11) agR 1 11) () Nc) rfl) $$ [TSagS1_10 TDagS1_10 SrcagS1_10 DstagS1_10 HO]
  · isplitr; · iexact ISagS1_10
    isplitr; · iexact IDagS1_10
    isplitl [SrcagS1_10]; · iexact SrcagS1_10
    isplitl [DstagS1_10]; · iexact DstagS1_10
    isplitl [HO]; · iexact HO
    isplitl [TSagS1_10]; · iexact TSagS1_10
    isplitr; · iexact RSagS1_10
    isplitl [TDagS1_10]; · iexact TDagS1_10
    iexact RDagS1_10
  iintro ⟨CSagS1_10, HO⟩
  sl_exec_parts (disch := simp only [dev134_eq, dev135_eq])
  iapply (wp_send_ag m K c 1 11 (by decide) gagS1_11 (W) (O + tallyAt (dmaCell (fwd c 11) agR 1 11) () Nc) (O) rfl) $$ [TSagS1_11 TDagS1_11 SrcagS1_11 DstagS1_11 HO]
  · isplitr; · iexact ISagS1_11
    isplitr; · iexact IDagS1_11
    isplitl [SrcagS1_11]; · iexact SrcagS1_11
    isplitl [DstagS1_11]; · iexact DstagS1_11
    isplitl [HO]; · iexact HO
    isplitl [TSagS1_11]; · iexact TSagS1_11
    isplitr; · iexact RSagS1_11
    isplitl [TDagS1_11]; · iexact TDagS1_11
    iexact RDagS1_11
  iintro ⟨CSagS1_11, HO⟩
  sl_exec_parts (disch := simp only [dev134_eq, dev135_eq])
  sl_step
  iapply Hk
  isplitl [ASagS1_10 CSagS1_10]
  · (try unfold recvRes)
    isplitr; · iexact ISagS1_10
    isplitl [ASagS1_10]; · iexact ASagS1_10
    iexact CSagS1_10
  isplitl [ASagS1_11 CSagS1_11]
  · (try unfold recvRes)
    isplitr; · iexact ISagS1_11
    isplitl [ASagS1_11]; · iexact ASagS1_11
    iexact CSagS1_11
  iexact HO

attribute [local sl_rounds] duties_dma amount_dma expect_dma in
set_option maxHeartbeats 4000000 in
theorem part84_spec (c : Dev nD) (v2 : BitVec 32) (v2135 : BitVec 32) (O : CellTallies nD τ sig Unit) (W : Waits sig Unit) (Q : (PUnit) → sProp 𝕄) :
    iprop(copyRes m K agS agR c 1 12
      ∗ ((chunk outM c 1).view.loc (c : Thread nD τ) ↦[(chunk outM c 1).view.set]{shr 12} (chunk outM c 1).view.rep (reduced m c 1))
      ∗ (∃ f, ((chunk outM c 1).view.loc (fwd c 12 : Thread nD τ) ↦[(chunk outM c 1).view.set]{fullShare} f))
      ∗ copyRes m K agS agR c 1 13
      ∗ ((chunk outM c 1).view.loc (c : Thread nD τ) ↦[(chunk outM c 1).view.set]{shr 13} (chunk outM c 1).view.rep (reduced m c 1))
      ∗ (∃ f, ((chunk outM c 1).view.loc (fwd c 13 : Thread nD τ) ↦[(chunk outM c 1).view.set]{fullShare} f))
      ∗ owes (c : Thread nD τ) (O + tallyAt (dmaCell (fwd c 13) agR 1 13) () Nc + tallyAt (dmaCell (fwd c 12) agR 1 12) () Nc) W
      ∗ (∀ r, (recvRes m K agS c 1 12
        ∗ recvRes m K agS c 1 13
        ∗ owes (c : Thread nD τ) (O) (W)) -∗ Q r))
      ⊢ wp frame (wpE (defs₀ (F := F)) 𝒱₀ c none) Set.univ (k0_part84 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2135) Q := by
  unfold copyRes
  iintro ⟨⟨#ISagS1_12, TSagS1_12, #RSagS1_12, ASagS1_12, #IDagS1_12, TDagS1_12, #RDagS1_12⟩, SrcagS1_12, ⟨%gagS1_12, DstagS1_12⟩, ⟨#ISagS1_13, TSagS1_13, #RSagS1_13, ASagS1_13, #IDagS1_13, TDagS1_13, #RDagS1_13⟩, SrcagS1_13, ⟨%gagS1_13, DstagS1_13⟩, HO, Hk⟩
  sl_exec_parts (disch := simp only [dev136_eq, dev137_eq])
  iapply (wp_send_ag m K c 1 12 (by decide) gagS1_12 (W) (O + tallyAt (dmaCell (fwd c 13) agR 1 13) () Nc + tallyAt (dmaCell (fwd c 12) agR 1 12) () Nc) (O + tallyAt (dmaCell (fwd c 13) agR 1 13) () Nc) rfl) $$ [TSagS1_12 TDagS1_12 SrcagS1_12 DstagS1_12 HO]
  · isplitr; · iexact ISagS1_12
    isplitr; · iexact IDagS1_12
    isplitl [SrcagS1_12]; · iexact SrcagS1_12
    isplitl [DstagS1_12]; · iexact DstagS1_12
    isplitl [HO]; · iexact HO
    isplitl [TSagS1_12]; · iexact TSagS1_12
    isplitr; · iexact RSagS1_12
    isplitl [TDagS1_12]; · iexact TDagS1_12
    iexact RDagS1_12
  iintro ⟨CSagS1_12, HO⟩
  sl_exec_parts (disch := simp only [dev136_eq, dev137_eq])
  iapply (wp_send_ag m K c 1 13 (by decide) gagS1_13 (W) (O + tallyAt (dmaCell (fwd c 13) agR 1 13) () Nc) (O) rfl) $$ [TSagS1_13 TDagS1_13 SrcagS1_13 DstagS1_13 HO]
  · isplitr; · iexact ISagS1_13
    isplitr; · iexact IDagS1_13
    isplitl [SrcagS1_13]; · iexact SrcagS1_13
    isplitl [DstagS1_13]; · iexact DstagS1_13
    isplitl [HO]; · iexact HO
    isplitl [TSagS1_13]; · iexact TSagS1_13
    isplitr; · iexact RSagS1_13
    isplitl [TDagS1_13]; · iexact TDagS1_13
    iexact RDagS1_13
  iintro ⟨CSagS1_13, HO⟩
  sl_exec_parts (disch := simp only [dev136_eq, dev137_eq])
  sl_step
  iapply Hk
  isplitl [ASagS1_12 CSagS1_12]
  · (try unfold recvRes)
    isplitr; · iexact ISagS1_12
    isplitl [ASagS1_12]; · iexact ASagS1_12
    iexact CSagS1_12
  isplitl [ASagS1_13 CSagS1_13]
  · (try unfold recvRes)
    isplitr; · iexact ISagS1_13
    isplitl [ASagS1_13]; · iexact ASagS1_13
    iexact CSagS1_13
  iexact HO

attribute [local sl_rounds] duties_dma amount_dma expect_dma in
set_option maxHeartbeats 4000000 in
theorem part85_spec (c : Dev nD) (v2 : BitVec 32) (O : CellTallies nD τ sig Unit) (W : Waits sig Unit) (Q : (Σ' (v2195 : BitVec 32), BitVec 32) → sProp 𝕄) :
    iprop(copyRes m K agS agR c 1 14
      ∗ ((chunk outM c 1).view.loc (c : Thread nD τ) ↦[(chunk outM c 1).view.set]{shr 14} (chunk outM c 1).view.rep (reduced m c 1))
      ∗ (∃ f, ((chunk outM c 1).view.loc (fwd c 14 : Thread nD τ) ↦[(chunk outM c 1).view.set]{fullShare} f))
      ∗ copyRes m K agS agR c 1 15
      ∗ ((chunk outM c 1).view.loc (c : Thread nD τ) ↦[(chunk outM c 1).view.set]{shr 15} (chunk outM c 1).view.rep (reduced m c 1))
      ∗ (∃ f, ((chunk outM c 1).view.loc (fwd c 15 : Thread nD τ) ↦[(chunk outM c 1).view.set]{fullShare} f))
      ∗ copyRes m K agS agR c 1 16
      ∗ ((chunk outM c 1).view.loc (c : Thread nD τ) ↦[(chunk outM c 1).view.set]{shr 16} (chunk outM c 1).view.rep (reduced m c 1))
      ∗ (∃ f, ((chunk outM c 1).view.loc (fwd c 16 : Thread nD τ) ↦[(chunk outM c 1).view.set]{fullShare} f))
      ∗ owes (c : Thread nD τ) (O + tallyAt (dmaCell (fwd c 16) agR 1 16) () Nc + tallyAt (dmaCell (fwd c 15) agR 1 15) () Nc + tallyAt (dmaCell (fwd c 14) agR 1 14) () Nc) W
      ∗ (∀ r, (recvRes m K agS c 1 14
        ∗ recvRes m K agS c 1 15
        ∗ recvRes m K agS c 1 16
        ∗ owes (c : Thread nD τ) (O) (W)) -∗ Q r))
      ⊢ wp frame (wpE (defs₀ (F := F)) 𝒱₀ c none) Set.univ (k0_part85 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS1_14, TSagS1_14, #RSagS1_14, ASagS1_14, #IDagS1_14, TDagS1_14, #RDagS1_14⟩, SrcagS1_14, ⟨%gagS1_14, DstagS1_14⟩, ⟨#ISagS1_15, TSagS1_15, #RSagS1_15, ASagS1_15, #IDagS1_15, TDagS1_15, #RDagS1_15⟩, SrcagS1_15, ⟨%gagS1_15, DstagS1_15⟩, ⟨#ISagS1_16, TSagS1_16, #RSagS1_16, ASagS1_16, #IDagS1_16, TDagS1_16, #RDagS1_16⟩, SrcagS1_16, ⟨%gagS1_16, DstagS1_16⟩, HO, Hk⟩
  sl_exec_parts (disch := simp only [dev138_eq, dev139_eq, dev140_eq])
  iapply (wp_send_ag m K c 1 14 (by decide) gagS1_14 (W) (O + tallyAt (dmaCell (fwd c 16) agR 1 16) () Nc + tallyAt (dmaCell (fwd c 15) agR 1 15) () Nc + tallyAt (dmaCell (fwd c 14) agR 1 14) () Nc) (O + tallyAt (dmaCell (fwd c 16) agR 1 16) () Nc + tallyAt (dmaCell (fwd c 15) agR 1 15) () Nc) rfl) $$ [TSagS1_14 TDagS1_14 SrcagS1_14 DstagS1_14 HO]
  · isplitr; · iexact ISagS1_14
    isplitr; · iexact IDagS1_14
    isplitl [SrcagS1_14]; · iexact SrcagS1_14
    isplitl [DstagS1_14]; · iexact DstagS1_14
    isplitl [HO]; · iexact HO
    isplitl [TSagS1_14]; · iexact TSagS1_14
    isplitr; · iexact RSagS1_14
    isplitl [TDagS1_14]; · iexact TDagS1_14
    iexact RDagS1_14
  iintro ⟨CSagS1_14, HO⟩
  sl_exec_parts (disch := simp only [dev138_eq, dev139_eq, dev140_eq])
  iapply (wp_send_ag m K c 1 15 (by decide) gagS1_15 (W) (O + tallyAt (dmaCell (fwd c 16) agR 1 16) () Nc + tallyAt (dmaCell (fwd c 15) agR 1 15) () Nc) (O + tallyAt (dmaCell (fwd c 16) agR 1 16) () Nc) rfl) $$ [TSagS1_15 TDagS1_15 SrcagS1_15 DstagS1_15 HO]
  · isplitr; · iexact ISagS1_15
    isplitr; · iexact IDagS1_15
    isplitl [SrcagS1_15]; · iexact SrcagS1_15
    isplitl [DstagS1_15]; · iexact DstagS1_15
    isplitl [HO]; · iexact HO
    isplitl [TSagS1_15]; · iexact TSagS1_15
    isplitr; · iexact RSagS1_15
    isplitl [TDagS1_15]; · iexact TDagS1_15
    iexact RDagS1_15
  iintro ⟨CSagS1_15, HO⟩
  sl_exec_parts (disch := simp only [dev138_eq, dev139_eq, dev140_eq])
  iapply (wp_send_ag m K c 1 16 (by decide) gagS1_16 (W) (O + tallyAt (dmaCell (fwd c 16) agR 1 16) () Nc) (O) rfl) $$ [TSagS1_16 TDagS1_16 SrcagS1_16 DstagS1_16 HO]
  · isplitr; · iexact ISagS1_16
    isplitr; · iexact IDagS1_16
    isplitl [SrcagS1_16]; · iexact SrcagS1_16
    isplitl [DstagS1_16]; · iexact DstagS1_16
    isplitl [HO]; · iexact HO
    isplitl [TSagS1_16]; · iexact TSagS1_16
    isplitr; · iexact RSagS1_16
    isplitl [TDagS1_16]; · iexact TDagS1_16
    iexact RDagS1_16
  iintro ⟨CSagS1_16, HO⟩
  sl_exec_parts (disch := simp only [dev138_eq, dev139_eq, dev140_eq])
  sl_step
  iapply Hk
  isplitl [ASagS1_14 CSagS1_14]
  · (try unfold recvRes)
    isplitr; · iexact ISagS1_14
    isplitl [ASagS1_14]; · iexact ASagS1_14
    iexact CSagS1_14
  isplitl [ASagS1_15 CSagS1_15]
  · (try unfold recvRes)
    isplitr; · iexact ISagS1_15
    isplitl [ASagS1_15]; · iexact ASagS1_15
    iexact CSagS1_15
  isplitl [ASagS1_16 CSagS1_16]
  · (try unfold recvRes)
    isplitr; · iexact ISagS1_16
    isplitl [ASagS1_16]; · iexact ASagS1_16
    iexact CSagS1_16
  iexact HO

attribute [local sl_rounds] duties_dma amount_dma expect_dma in
set_option maxHeartbeats 4000000 in
theorem part86_spec (c : Dev nD) (v2 : BitVec 32) (v2195 : BitVec 32) (c32_i32_2653 : BitVec 32) (O : CellTallies nD τ sig Unit) (W : Waits sig Unit) (Q : (PUnit) → sProp 𝕄) :
    iprop(copyRes m K agS agR c 1 17
      ∗ ((chunk outM c 1).view.loc (c : Thread nD τ) ↦[(chunk outM c 1).view.set]{shr 17} (chunk outM c 1).view.rep (reduced m c 1))
      ∗ (∃ f, ((chunk outM c 1).view.loc (fwd c 17 : Thread nD τ) ↦[(chunk outM c 1).view.set]{fullShare} f))
      ∗ copyRes m K agS agR c 1 18
      ∗ ((chunk outM c 1).view.loc (c : Thread nD τ) ↦[(chunk outM c 1).view.set]{shr 18} (chunk outM c 1).view.rep (reduced m c 1))
      ∗ (∃ f, ((chunk outM c 1).view.loc (fwd c 18 : Thread nD τ) ↦[(chunk outM c 1).view.set]{fullShare} f))
      ∗ owes (c : Thread nD τ) (O + tallyAt (dmaCell (fwd c 18) agR 1 18) () Nc + tallyAt (dmaCell (fwd c 17) agR 1 17) () Nc) W
      ∗ (∀ r, (recvRes m K agS c 1 17
        ∗ recvRes m K agS c 1 18
        ∗ owes (c : Thread nD τ) (O) (W)) -∗ Q r))
      ⊢ wp frame (wpE (defs₀ (F := F)) 𝒱₀ c none) Set.univ (k0_part86 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2195 c32_i32_2653) Q := by
  unfold copyRes
  iintro ⟨⟨#ISagS1_17, TSagS1_17, #RSagS1_17, ASagS1_17, #IDagS1_17, TDagS1_17, #RDagS1_17⟩, SrcagS1_17, ⟨%gagS1_17, DstagS1_17⟩, ⟨#ISagS1_18, TSagS1_18, #RSagS1_18, ASagS1_18, #IDagS1_18, TDagS1_18, #RDagS1_18⟩, SrcagS1_18, ⟨%gagS1_18, DstagS1_18⟩, HO, Hk⟩
  sl_exec_parts (disch := simp only [dev141_eq, dev142_eq])
  iapply (wp_send_ag m K c 1 17 (by decide) gagS1_17 (W) (O + tallyAt (dmaCell (fwd c 18) agR 1 18) () Nc + tallyAt (dmaCell (fwd c 17) agR 1 17) () Nc) (O + tallyAt (dmaCell (fwd c 18) agR 1 18) () Nc) rfl) $$ [TSagS1_17 TDagS1_17 SrcagS1_17 DstagS1_17 HO]
  · isplitr; · iexact ISagS1_17
    isplitr; · iexact IDagS1_17
    isplitl [SrcagS1_17]; · iexact SrcagS1_17
    isplitl [DstagS1_17]; · iexact DstagS1_17
    isplitl [HO]; · iexact HO
    isplitl [TSagS1_17]; · iexact TSagS1_17
    isplitr; · iexact RSagS1_17
    isplitl [TDagS1_17]; · iexact TDagS1_17
    iexact RDagS1_17
  iintro ⟨CSagS1_17, HO⟩
  sl_exec_parts (disch := simp only [dev141_eq, dev142_eq])
  iapply (wp_send_ag m K c 1 18 (by decide) gagS1_18 (W) (O + tallyAt (dmaCell (fwd c 18) agR 1 18) () Nc) (O) rfl) $$ [TSagS1_18 TDagS1_18 SrcagS1_18 DstagS1_18 HO]
  · isplitr; · iexact ISagS1_18
    isplitr; · iexact IDagS1_18
    isplitl [SrcagS1_18]; · iexact SrcagS1_18
    isplitl [DstagS1_18]; · iexact DstagS1_18
    isplitl [HO]; · iexact HO
    isplitl [TSagS1_18]; · iexact TSagS1_18
    isplitr; · iexact RSagS1_18
    isplitl [TDagS1_18]; · iexact TDagS1_18
    iexact RDagS1_18
  iintro ⟨CSagS1_18, HO⟩
  sl_exec_parts (disch := simp only [dev141_eq, dev142_eq])
  sl_step
  iapply Hk
  isplitl [ASagS1_17 CSagS1_17]
  · (try unfold recvRes)
    isplitr; · iexact ISagS1_17
    isplitl [ASagS1_17]; · iexact ASagS1_17
    iexact CSagS1_17
  isplitl [ASagS1_18 CSagS1_18]
  · (try unfold recvRes)
    isplitr; · iexact ISagS1_18
    isplitl [ASagS1_18]; · iexact ASagS1_18
    iexact CSagS1_18
  iexact HO

attribute [local sl_rounds] duties_dma amount_dma expect_dma in
set_option maxHeartbeats 4000000 in
theorem part87_spec (c : Dev nD) (v2 : BitVec 32) (O : CellTallies nD τ sig Unit) (W : Waits sig Unit) (Q : (BitVec 32) → sProp 𝕄) :
    iprop(copyRes m K agS agR c 1 19
      ∗ ((chunk outM c 1).view.loc (c : Thread nD τ) ↦[(chunk outM c 1).view.set]{shr 19} (chunk outM c 1).view.rep (reduced m c 1))
      ∗ (∃ f, ((chunk outM c 1).view.loc (fwd c 19 : Thread nD τ) ↦[(chunk outM c 1).view.set]{fullShare} f))
      ∗ copyRes m K agS agR c 1 20
      ∗ ((chunk outM c 1).view.loc (c : Thread nD τ) ↦[(chunk outM c 1).view.set]{shr 20} (chunk outM c 1).view.rep (reduced m c 1))
      ∗ (∃ f, ((chunk outM c 1).view.loc (fwd c 20 : Thread nD τ) ↦[(chunk outM c 1).view.set]{fullShare} f))
      ∗ copyRes m K agS agR c 1 21
      ∗ ((chunk outM c 1).view.loc (c : Thread nD τ) ↦[(chunk outM c 1).view.set]{shr 21} (chunk outM c 1).view.rep (reduced m c 1))
      ∗ (∃ f, ((chunk outM c 1).view.loc (fwd c 21 : Thread nD τ) ↦[(chunk outM c 1).view.set]{fullShare} f))
      ∗ owes (c : Thread nD τ) (O + tallyAt (dmaCell (fwd c 21) agR 1 21) () Nc + tallyAt (dmaCell (fwd c 20) agR 1 20) () Nc + tallyAt (dmaCell (fwd c 19) agR 1 19) () Nc) W
      ∗ (∀ r, (recvRes m K agS c 1 19
        ∗ recvRes m K agS c 1 20
        ∗ recvRes m K agS c 1 21
        ∗ owes (c : Thread nD τ) (O) (W)) -∗ Q r))
      ⊢ wp frame (wpE (defs₀ (F := F)) 𝒱₀ c none) Set.univ (k0_part87 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS1_19, TSagS1_19, #RSagS1_19, ASagS1_19, #IDagS1_19, TDagS1_19, #RDagS1_19⟩, SrcagS1_19, ⟨%gagS1_19, DstagS1_19⟩, ⟨#ISagS1_20, TSagS1_20, #RSagS1_20, ASagS1_20, #IDagS1_20, TDagS1_20, #RDagS1_20⟩, SrcagS1_20, ⟨%gagS1_20, DstagS1_20⟩, ⟨#ISagS1_21, TSagS1_21, #RSagS1_21, ASagS1_21, #IDagS1_21, TDagS1_21, #RDagS1_21⟩, SrcagS1_21, ⟨%gagS1_21, DstagS1_21⟩, HO, Hk⟩
  sl_exec_parts (disch := simp only [dev143_eq, dev144_eq, dev145_eq])
  iapply (wp_send_ag m K c 1 19 (by decide) gagS1_19 (W) (O + tallyAt (dmaCell (fwd c 21) agR 1 21) () Nc + tallyAt (dmaCell (fwd c 20) agR 1 20) () Nc + tallyAt (dmaCell (fwd c 19) agR 1 19) () Nc) (O + tallyAt (dmaCell (fwd c 21) agR 1 21) () Nc + tallyAt (dmaCell (fwd c 20) agR 1 20) () Nc) rfl) $$ [TSagS1_19 TDagS1_19 SrcagS1_19 DstagS1_19 HO]
  · isplitr; · iexact ISagS1_19
    isplitr; · iexact IDagS1_19
    isplitl [SrcagS1_19]; · iexact SrcagS1_19
    isplitl [DstagS1_19]; · iexact DstagS1_19
    isplitl [HO]; · iexact HO
    isplitl [TSagS1_19]; · iexact TSagS1_19
    isplitr; · iexact RSagS1_19
    isplitl [TDagS1_19]; · iexact TDagS1_19
    iexact RDagS1_19
  iintro ⟨CSagS1_19, HO⟩
  sl_exec_parts (disch := simp only [dev143_eq, dev144_eq, dev145_eq])
  iapply (wp_send_ag m K c 1 20 (by decide) gagS1_20 (W) (O + tallyAt (dmaCell (fwd c 21) agR 1 21) () Nc + tallyAt (dmaCell (fwd c 20) agR 1 20) () Nc) (O + tallyAt (dmaCell (fwd c 21) agR 1 21) () Nc) rfl) $$ [TSagS1_20 TDagS1_20 SrcagS1_20 DstagS1_20 HO]
  · isplitr; · iexact ISagS1_20
    isplitr; · iexact IDagS1_20
    isplitl [SrcagS1_20]; · iexact SrcagS1_20
    isplitl [DstagS1_20]; · iexact DstagS1_20
    isplitl [HO]; · iexact HO
    isplitl [TSagS1_20]; · iexact TSagS1_20
    isplitr; · iexact RSagS1_20
    isplitl [TDagS1_20]; · iexact TDagS1_20
    iexact RDagS1_20
  iintro ⟨CSagS1_20, HO⟩
  sl_exec_parts (disch := simp only [dev143_eq, dev144_eq, dev145_eq])
  iapply (wp_send_ag m K c 1 21 (by decide) gagS1_21 (W) (O + tallyAt (dmaCell (fwd c 21) agR 1 21) () Nc) (O) rfl) $$ [TSagS1_21 TDagS1_21 SrcagS1_21 DstagS1_21 HO]
  · isplitr; · iexact ISagS1_21
    isplitr; · iexact IDagS1_21
    isplitl [SrcagS1_21]; · iexact SrcagS1_21
    isplitl [DstagS1_21]; · iexact DstagS1_21
    isplitl [HO]; · iexact HO
    isplitl [TSagS1_21]; · iexact TSagS1_21
    isplitr; · iexact RSagS1_21
    isplitl [TDagS1_21]; · iexact TDagS1_21
    iexact RDagS1_21
  iintro ⟨CSagS1_21, HO⟩
  sl_exec_parts (disch := simp only [dev143_eq, dev144_eq, dev145_eq])
  sl_step
  iapply Hk
  isplitl [ASagS1_19 CSagS1_19]
  · (try unfold recvRes)
    isplitr; · iexact ISagS1_19
    isplitl [ASagS1_19]; · iexact ASagS1_19
    iexact CSagS1_19
  isplitl [ASagS1_20 CSagS1_20]
  · (try unfold recvRes)
    isplitr; · iexact ISagS1_20
    isplitl [ASagS1_20]; · iexact ASagS1_20
    iexact CSagS1_20
  isplitl [ASagS1_21 CSagS1_21]
  · (try unfold recvRes)
    isplitr; · iexact ISagS1_21
    isplitl [ASagS1_21]; · iexact ASagS1_21
    iexact CSagS1_21
  iexact HO

attribute [local sl_rounds] duties_dma amount_dma expect_dma in
set_option maxHeartbeats 4000000 in
theorem part88_spec (c : Dev nD) (v2 : BitVec 32) (v2254 : BitVec 32) (O : CellTallies nD τ sig Unit) (W : Waits sig Unit) (Q : (BitVec 32) → sProp 𝕄) :
    iprop(copyRes m K agS agR c 1 22
      ∗ ((chunk outM c 1).view.loc (c : Thread nD τ) ↦[(chunk outM c 1).view.set]{shr 22} (chunk outM c 1).view.rep (reduced m c 1))
      ∗ (∃ f, ((chunk outM c 1).view.loc (fwd c 22 : Thread nD τ) ↦[(chunk outM c 1).view.set]{fullShare} f))
      ∗ copyRes m K agS agR c 1 23
      ∗ ((chunk outM c 1).view.loc (c : Thread nD τ) ↦[(chunk outM c 1).view.set]{shr 23} (chunk outM c 1).view.rep (reduced m c 1))
      ∗ (∃ f, ((chunk outM c 1).view.loc (fwd c 23 : Thread nD τ) ↦[(chunk outM c 1).view.set]{fullShare} f))
      ∗ owes (c : Thread nD τ) (O + tallyAt (dmaCell (fwd c 23) agR 1 23) () Nc + tallyAt (dmaCell (fwd c 22) agR 1 22) () Nc) W
      ∗ (∀ r, (recvRes m K agS c 1 22
        ∗ recvRes m K agS c 1 23
        ∗ owes (c : Thread nD τ) (O) (W)) -∗ Q r))
      ⊢ wp frame (wpE (defs₀ (F := F)) 𝒱₀ c none) Set.univ (k0_part88 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2254) Q := by
  unfold copyRes
  iintro ⟨⟨#ISagS1_22, TSagS1_22, #RSagS1_22, ASagS1_22, #IDagS1_22, TDagS1_22, #RDagS1_22⟩, SrcagS1_22, ⟨%gagS1_22, DstagS1_22⟩, ⟨#ISagS1_23, TSagS1_23, #RSagS1_23, ASagS1_23, #IDagS1_23, TDagS1_23, #RDagS1_23⟩, SrcagS1_23, ⟨%gagS1_23, DstagS1_23⟩, HO, Hk⟩
  sl_exec_parts (disch := simp only [dev146_eq, dev147_eq])
  iapply (wp_send_ag m K c 1 22 (by decide) gagS1_22 (W) (O + tallyAt (dmaCell (fwd c 23) agR 1 23) () Nc + tallyAt (dmaCell (fwd c 22) agR 1 22) () Nc) (O + tallyAt (dmaCell (fwd c 23) agR 1 23) () Nc) rfl) $$ [TSagS1_22 TDagS1_22 SrcagS1_22 DstagS1_22 HO]
  · isplitr; · iexact ISagS1_22
    isplitr; · iexact IDagS1_22
    isplitl [SrcagS1_22]; · iexact SrcagS1_22
    isplitl [DstagS1_22]; · iexact DstagS1_22
    isplitl [HO]; · iexact HO
    isplitl [TSagS1_22]; · iexact TSagS1_22
    isplitr; · iexact RSagS1_22
    isplitl [TDagS1_22]; · iexact TDagS1_22
    iexact RDagS1_22
  iintro ⟨CSagS1_22, HO⟩
  sl_exec_parts (disch := simp only [dev146_eq, dev147_eq])
  iapply (wp_send_ag m K c 1 23 (by decide) gagS1_23 (W) (O + tallyAt (dmaCell (fwd c 23) agR 1 23) () Nc) (O) rfl) $$ [TSagS1_23 TDagS1_23 SrcagS1_23 DstagS1_23 HO]
  · isplitr; · iexact ISagS1_23
    isplitr; · iexact IDagS1_23
    isplitl [SrcagS1_23]; · iexact SrcagS1_23
    isplitl [DstagS1_23]; · iexact DstagS1_23
    isplitl [HO]; · iexact HO
    isplitl [TSagS1_23]; · iexact TSagS1_23
    isplitr; · iexact RSagS1_23
    isplitl [TDagS1_23]; · iexact TDagS1_23
    iexact RDagS1_23
  iintro ⟨CSagS1_23, HO⟩
  sl_exec_parts (disch := simp only [dev146_eq, dev147_eq])
  sl_step
  iapply Hk
  isplitl [ASagS1_22 CSagS1_22]
  · (try unfold recvRes)
    isplitr; · iexact ISagS1_22
    isplitl [ASagS1_22]; · iexact ASagS1_22
    iexact CSagS1_22
  isplitl [ASagS1_23 CSagS1_23]
  · (try unfold recvRes)
    isplitr; · iexact ISagS1_23
    isplitl [ASagS1_23]; · iexact ASagS1_23
    iexact CSagS1_23
  iexact HO

attribute [local sl_rounds] duties_dma amount_dma expect_dma in
set_option maxHeartbeats 4000000 in
theorem part89_spec (c : Dev nD) (v2 : BitVec 32) (v2279 : BitVec 32) (O : CellTallies nD τ sig Unit) (W : Waits sig Unit) (Q : (PUnit) → sProp 𝕄) :
    iprop(copyRes m K agS agR c 1 24
      ∗ ((chunk outM c 1).view.loc (c : Thread nD τ) ↦[(chunk outM c 1).view.set]{shr 24} (chunk outM c 1).view.rep (reduced m c 1))
      ∗ (∃ f, ((chunk outM c 1).view.loc (fwd c 24 : Thread nD τ) ↦[(chunk outM c 1).view.set]{fullShare} f))
      ∗ copyRes m K agS agR c 1 25
      ∗ ((chunk outM c 1).view.loc (c : Thread nD τ) ↦[(chunk outM c 1).view.set]{shr 25} (chunk outM c 1).view.rep (reduced m c 1))
      ∗ (∃ f, ((chunk outM c 1).view.loc (fwd c 25 : Thread nD τ) ↦[(chunk outM c 1).view.set]{fullShare} f))
      ∗ owes (c : Thread nD τ) (O + tallyAt (dmaCell (fwd c 25) agR 1 25) () Nc + tallyAt (dmaCell (fwd c 24) agR 1 24) () Nc) W
      ∗ (∀ r, (recvRes m K agS c 1 24
        ∗ recvRes m K agS c 1 25
        ∗ owes (c : Thread nD τ) (O) (W)) -∗ Q r))
      ⊢ wp frame (wpE (defs₀ (F := F)) 𝒱₀ c none) Set.univ (k0_part89 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2279) Q := by
  unfold copyRes
  iintro ⟨⟨#ISagS1_24, TSagS1_24, #RSagS1_24, ASagS1_24, #IDagS1_24, TDagS1_24, #RDagS1_24⟩, SrcagS1_24, ⟨%gagS1_24, DstagS1_24⟩, ⟨#ISagS1_25, TSagS1_25, #RSagS1_25, ASagS1_25, #IDagS1_25, TDagS1_25, #RDagS1_25⟩, SrcagS1_25, ⟨%gagS1_25, DstagS1_25⟩, HO, Hk⟩
  sl_exec_parts (disch := simp only [dev148_eq, dev149_eq])
  iapply (wp_send_ag m K c 1 24 (by decide) gagS1_24 (W) (O + tallyAt (dmaCell (fwd c 25) agR 1 25) () Nc + tallyAt (dmaCell (fwd c 24) agR 1 24) () Nc) (O + tallyAt (dmaCell (fwd c 25) agR 1 25) () Nc) rfl) $$ [TSagS1_24 TDagS1_24 SrcagS1_24 DstagS1_24 HO]
  · isplitr; · iexact ISagS1_24
    isplitr; · iexact IDagS1_24
    isplitl [SrcagS1_24]; · iexact SrcagS1_24
    isplitl [DstagS1_24]; · iexact DstagS1_24
    isplitl [HO]; · iexact HO
    isplitl [TSagS1_24]; · iexact TSagS1_24
    isplitr; · iexact RSagS1_24
    isplitl [TDagS1_24]; · iexact TDagS1_24
    iexact RDagS1_24
  iintro ⟨CSagS1_24, HO⟩
  sl_exec_parts (disch := simp only [dev148_eq, dev149_eq])
  iapply (wp_send_ag m K c 1 25 (by decide) gagS1_25 (W) (O + tallyAt (dmaCell (fwd c 25) agR 1 25) () Nc) (O) rfl) $$ [TSagS1_25 TDagS1_25 SrcagS1_25 DstagS1_25 HO]
  · isplitr; · iexact ISagS1_25
    isplitr; · iexact IDagS1_25
    isplitl [SrcagS1_25]; · iexact SrcagS1_25
    isplitl [DstagS1_25]; · iexact DstagS1_25
    isplitl [HO]; · iexact HO
    isplitl [TSagS1_25]; · iexact TSagS1_25
    isplitr; · iexact RSagS1_25
    isplitl [TDagS1_25]; · iexact TDagS1_25
    iexact RDagS1_25
  iintro ⟨CSagS1_25, HO⟩
  sl_exec_parts (disch := simp only [dev148_eq, dev149_eq])
  sl_step
  iapply Hk
  isplitl [ASagS1_24 CSagS1_24]
  · (try unfold recvRes)
    isplitr; · iexact ISagS1_24
    isplitl [ASagS1_24]; · iexact ASagS1_24
    iexact CSagS1_24
  isplitl [ASagS1_25 CSagS1_25]
  · (try unfold recvRes)
    isplitr; · iexact ISagS1_25
    isplitl [ASagS1_25]; · iexact ASagS1_25
    iexact CSagS1_25
  iexact HO

attribute [local sl_rounds] duties_dma amount_dma expect_dma in
set_option maxHeartbeats 4000000 in
theorem part90_spec (c : Dev nD) (v2 : BitVec 32) (O : CellTallies nD τ sig Unit) (W : Waits sig Unit) (Q : (Σ' (v2339 : BitVec 32), BitVec 32) → sProp 𝕄) :
    iprop(copyRes m K agS agR c 1 26
      ∗ ((chunk outM c 1).view.loc (c : Thread nD τ) ↦[(chunk outM c 1).view.set]{shr 26} (chunk outM c 1).view.rep (reduced m c 1))
      ∗ (∃ f, ((chunk outM c 1).view.loc (fwd c 26 : Thread nD τ) ↦[(chunk outM c 1).view.set]{fullShare} f))
      ∗ copyRes m K agS agR c 1 27
      ∗ ((chunk outM c 1).view.loc (c : Thread nD τ) ↦[(chunk outM c 1).view.set]{shr 27} (chunk outM c 1).view.rep (reduced m c 1))
      ∗ (∃ f, ((chunk outM c 1).view.loc (fwd c 27 : Thread nD τ) ↦[(chunk outM c 1).view.set]{fullShare} f))
      ∗ copyRes m K agS agR c 1 28
      ∗ ((chunk outM c 1).view.loc (c : Thread nD τ) ↦[(chunk outM c 1).view.set]{shr 28} (chunk outM c 1).view.rep (reduced m c 1))
      ∗ (∃ f, ((chunk outM c 1).view.loc (fwd c 28 : Thread nD τ) ↦[(chunk outM c 1).view.set]{fullShare} f))
      ∗ owes (c : Thread nD τ) (O + tallyAt (dmaCell (fwd c 28) agR 1 28) () Nc + tallyAt (dmaCell (fwd c 27) agR 1 27) () Nc + tallyAt (dmaCell (fwd c 26) agR 1 26) () Nc) W
      ∗ (∀ r, (recvRes m K agS c 1 26
        ∗ recvRes m K agS c 1 27
        ∗ recvRes m K agS c 1 28
        ∗ owes (c : Thread nD τ) (O) (W)) -∗ Q r))
      ⊢ wp frame (wpE (defs₀ (F := F)) 𝒱₀ c none) Set.univ (k0_part90 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS1_26, TSagS1_26, #RSagS1_26, ASagS1_26, #IDagS1_26, TDagS1_26, #RDagS1_26⟩, SrcagS1_26, ⟨%gagS1_26, DstagS1_26⟩, ⟨#ISagS1_27, TSagS1_27, #RSagS1_27, ASagS1_27, #IDagS1_27, TDagS1_27, #RDagS1_27⟩, SrcagS1_27, ⟨%gagS1_27, DstagS1_27⟩, ⟨#ISagS1_28, TSagS1_28, #RSagS1_28, ASagS1_28, #IDagS1_28, TDagS1_28, #RDagS1_28⟩, SrcagS1_28, ⟨%gagS1_28, DstagS1_28⟩, HO, Hk⟩
  sl_exec_parts (disch := simp only [dev150_eq, dev151_eq, dev152_eq])
  iapply (wp_send_ag m K c 1 26 (by decide) gagS1_26 (W) (O + tallyAt (dmaCell (fwd c 28) agR 1 28) () Nc + tallyAt (dmaCell (fwd c 27) agR 1 27) () Nc + tallyAt (dmaCell (fwd c 26) agR 1 26) () Nc) (O + tallyAt (dmaCell (fwd c 28) agR 1 28) () Nc + tallyAt (dmaCell (fwd c 27) agR 1 27) () Nc) rfl) $$ [TSagS1_26 TDagS1_26 SrcagS1_26 DstagS1_26 HO]
  · isplitr; · iexact ISagS1_26
    isplitr; · iexact IDagS1_26
    isplitl [SrcagS1_26]; · iexact SrcagS1_26
    isplitl [DstagS1_26]; · iexact DstagS1_26
    isplitl [HO]; · iexact HO
    isplitl [TSagS1_26]; · iexact TSagS1_26
    isplitr; · iexact RSagS1_26
    isplitl [TDagS1_26]; · iexact TDagS1_26
    iexact RDagS1_26
  iintro ⟨CSagS1_26, HO⟩
  sl_exec_parts (disch := simp only [dev150_eq, dev151_eq, dev152_eq])
  iapply (wp_send_ag m K c 1 27 (by decide) gagS1_27 (W) (O + tallyAt (dmaCell (fwd c 28) agR 1 28) () Nc + tallyAt (dmaCell (fwd c 27) agR 1 27) () Nc) (O + tallyAt (dmaCell (fwd c 28) agR 1 28) () Nc) rfl) $$ [TSagS1_27 TDagS1_27 SrcagS1_27 DstagS1_27 HO]
  · isplitr; · iexact ISagS1_27
    isplitr; · iexact IDagS1_27
    isplitl [SrcagS1_27]; · iexact SrcagS1_27
    isplitl [DstagS1_27]; · iexact DstagS1_27
    isplitl [HO]; · iexact HO
    isplitl [TSagS1_27]; · iexact TSagS1_27
    isplitr; · iexact RSagS1_27
    isplitl [TDagS1_27]; · iexact TDagS1_27
    iexact RDagS1_27
  iintro ⟨CSagS1_27, HO⟩
  sl_exec_parts (disch := simp only [dev150_eq, dev151_eq, dev152_eq])
  iapply (wp_send_ag m K c 1 28 (by decide) gagS1_28 (W) (O + tallyAt (dmaCell (fwd c 28) agR 1 28) () Nc) (O) rfl) $$ [TSagS1_28 TDagS1_28 SrcagS1_28 DstagS1_28 HO]
  · isplitr; · iexact ISagS1_28
    isplitr; · iexact IDagS1_28
    isplitl [SrcagS1_28]; · iexact SrcagS1_28
    isplitl [DstagS1_28]; · iexact DstagS1_28
    isplitl [HO]; · iexact HO
    isplitl [TSagS1_28]; · iexact TSagS1_28
    isplitr; · iexact RSagS1_28
    isplitl [TDagS1_28]; · iexact TDagS1_28
    iexact RDagS1_28
  iintro ⟨CSagS1_28, HO⟩
  sl_exec_parts (disch := simp only [dev150_eq, dev151_eq, dev152_eq])
  sl_step
  iapply Hk
  isplitl [ASagS1_26 CSagS1_26]
  · (try unfold recvRes)
    isplitr; · iexact ISagS1_26
    isplitl [ASagS1_26]; · iexact ASagS1_26
    iexact CSagS1_26
  isplitl [ASagS1_27 CSagS1_27]
  · (try unfold recvRes)
    isplitr; · iexact ISagS1_27
    isplitl [ASagS1_27]; · iexact ASagS1_27
    iexact CSagS1_27
  isplitl [ASagS1_28 CSagS1_28]
  · (try unfold recvRes)
    isplitr; · iexact ISagS1_28
    isplitl [ASagS1_28]; · iexact ASagS1_28
    iexact CSagS1_28
  iexact HO

attribute [local sl_rounds] duties_dma amount_dma expect_dma in
set_option maxHeartbeats 4000000 in
theorem part91_spec (c : Dev nD) (v2 : BitVec 32) (v2339 : BitVec 32) (c32_i32_2797 : BitVec 32) (O : CellTallies nD τ sig Unit) (W : Waits sig Unit) (Q : (PUnit) → sProp 𝕄) :
    iprop(copyRes m K agS agR c 1 29
      ∗ ((chunk outM c 1).view.loc (c : Thread nD τ) ↦[(chunk outM c 1).view.set]{shr 29} (chunk outM c 1).view.rep (reduced m c 1))
      ∗ (∃ f, ((chunk outM c 1).view.loc (fwd c 29 : Thread nD τ) ↦[(chunk outM c 1).view.set]{fullShare} f))
      ∗ copyRes m K agS agR c 1 30
      ∗ ((chunk outM c 1).view.loc (c : Thread nD τ) ↦[(chunk outM c 1).view.set]{shr 30} (chunk outM c 1).view.rep (reduced m c 1))
      ∗ (∃ f, ((chunk outM c 1).view.loc (fwd c 30 : Thread nD τ) ↦[(chunk outM c 1).view.set]{fullShare} f))
      ∗ owes (c : Thread nD τ) (O + tallyAt (dmaCell (fwd c 30) agR 1 30) () Nc + tallyAt (dmaCell (fwd c 29) agR 1 29) () Nc) W
      ∗ (∀ r, (recvRes m K agS c 1 29
        ∗ recvRes m K agS c 1 30
        ∗ owes (c : Thread nD τ) (O) (W)) -∗ Q r))
      ⊢ wp frame (wpE (defs₀ (F := F)) 𝒱₀ c none) Set.univ (k0_part91 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2339 c32_i32_2797) Q := by
  unfold copyRes
  iintro ⟨⟨#ISagS1_29, TSagS1_29, #RSagS1_29, ASagS1_29, #IDagS1_29, TDagS1_29, #RDagS1_29⟩, SrcagS1_29, ⟨%gagS1_29, DstagS1_29⟩, ⟨#ISagS1_30, TSagS1_30, #RSagS1_30, ASagS1_30, #IDagS1_30, TDagS1_30, #RDagS1_30⟩, SrcagS1_30, ⟨%gagS1_30, DstagS1_30⟩, HO, Hk⟩
  sl_exec_parts (disch := simp only [dev153_eq, dev154_eq])
  iapply (wp_send_ag m K c 1 29 (by decide) gagS1_29 (W) (O + tallyAt (dmaCell (fwd c 30) agR 1 30) () Nc + tallyAt (dmaCell (fwd c 29) agR 1 29) () Nc) (O + tallyAt (dmaCell (fwd c 30) agR 1 30) () Nc) rfl) $$ [TSagS1_29 TDagS1_29 SrcagS1_29 DstagS1_29 HO]
  · isplitr; · iexact ISagS1_29
    isplitr; · iexact IDagS1_29
    isplitl [SrcagS1_29]; · iexact SrcagS1_29
    isplitl [DstagS1_29]; · iexact DstagS1_29
    isplitl [HO]; · iexact HO
    isplitl [TSagS1_29]; · iexact TSagS1_29
    isplitr; · iexact RSagS1_29
    isplitl [TDagS1_29]; · iexact TDagS1_29
    iexact RDagS1_29
  iintro ⟨CSagS1_29, HO⟩
  sl_exec_parts (disch := simp only [dev153_eq, dev154_eq])
  iapply (wp_send_ag m K c 1 30 (by decide) gagS1_30 (W) (O + tallyAt (dmaCell (fwd c 30) agR 1 30) () Nc) (O) rfl) $$ [TSagS1_30 TDagS1_30 SrcagS1_30 DstagS1_30 HO]
  · isplitr; · iexact ISagS1_30
    isplitr; · iexact IDagS1_30
    isplitl [SrcagS1_30]; · iexact SrcagS1_30
    isplitl [DstagS1_30]; · iexact DstagS1_30
    isplitl [HO]; · iexact HO
    isplitl [TSagS1_30]; · iexact TSagS1_30
    isplitr; · iexact RSagS1_30
    isplitl [TDagS1_30]; · iexact TDagS1_30
    iexact RDagS1_30
  iintro ⟨CSagS1_30, HO⟩
  sl_exec_parts (disch := simp only [dev153_eq, dev154_eq])
  sl_step
  iapply Hk
  isplitl [ASagS1_29 CSagS1_29]
  · (try unfold recvRes)
    isplitr; · iexact ISagS1_29
    isplitl [ASagS1_29]; · iexact ASagS1_29
    iexact CSagS1_29
  isplitl [ASagS1_30 CSagS1_30]
  · (try unfold recvRes)
    isplitr; · iexact ISagS1_30
    isplitl [ASagS1_30]; · iexact ASagS1_30
    iexact CSagS1_30
  iexact HO

attribute [local sl_rounds] duties_dma amount_dma expect_dma pay_rsS in
set_option maxHeartbeats 4000000 in
theorem part92_spec (c : Dev nD)  (O : CellTallies nD τ sig Unit) (hmwrsS0_1 : (levAts L lv : sProp 𝕄) ⊢ MayWait (c : Thread nD τ) (.dma (semAt (arr rsS) 0 1)) () O) (hmwrsS0_2 : (levAts L lv : sProp 𝕄) ⊢ MayWait (c : Thread nD τ) (.dma (semAt (arr rsS) 0 2)) () O) (hmwrsS0_3 : (levAts L lv : sProp 𝕄) ⊢ MayWait (c : Thread nD τ) (.dma (semAt (arr rsS) 0 3)) () O) (W : Waits sig Unit) (Q : (PUnit) → sProp 𝕄) :
    iprop(copyRes m K agS agR c 1 31
      ∗ ((chunk outM c 1).view.loc (c : Thread nD τ) ↦[(chunk outM c 1).view.set]{shr 31} (chunk outM c 1).view.rep (reduced m c 1))
      ∗ (∃ f, ((chunk outM c 1).view.loc (fwd c 31 : Thread nD τ) ↦[(chunk outM c 1).view.set]{fullShare} f))
      ∗ recvRes m K rsS c 0 1
      ∗ recvRes m K rsS c 0 2
      ∗ recvRes m K rsS c 0 3
      ∗ levAts L lv
      ∗ owes (c : Thread nD τ) (O + tallyAt (dmaCell (fwd c 31) agR 1 31) () Nc) W
      ∗ (∀ r, (recvRes m K agS c 1 31
        ∗ ((chunk accM (fwd c 1) 0).view.loc (c : Thread nD τ) ↦[(chunk accM (fwd c 1) 0).view.set]{fullShare} (chunk accM (fwd c 1) 0).view.rep (sent m c (fwd c 1) 0))
        ∗ (cellInv ER (sched m) (K (dmaCell c rsS 0 1)) (dmaCell c rsS 0 1) ∗ atPos ER (dmaCell c rsS 0 1) 1 ∅ 0)
        ∗ ((chunk accM (fwd c 2) 0).view.loc (c : Thread nD τ) ↦[(chunk accM (fwd c 2) 0).view.set]{fullShare} (chunk accM (fwd c 2) 0).view.rep (sent m c (fwd c 2) 0))
        ∗ (cellInv ER (sched m) (K (dmaCell c rsS 0 2)) (dmaCell c rsS 0 2) ∗ atPos ER (dmaCell c rsS 0 2) 1 ∅ 0)
        ∗ ((chunk accM (fwd c 3) 0).view.loc (c : Thread nD τ) ↦[(chunk accM (fwd c 3) 0).view.set]{fullShare} (chunk accM (fwd c 3) 0).view.rep (sent m c (fwd c 3) 0))
        ∗ (cellInv ER (sched m) (K (dmaCell c rsS 0 3)) (dmaCell c rsS 0 3) ∗ atPos ER (dmaCell c rsS 0 3) 1 ∅ 0)
        ∗ owes (c : Thread nD τ) (O) (insert (SemLoc.dma (semAt (arr rsS) 0 3), ()) (insert (SemLoc.dma (semAt (arr rsS) 0 2), ()) (insert (SemLoc.dma (semAt (arr rsS) 0 1), ()) (W))))) -∗ Q r))
      ⊢ wp frame (wpE (defs₀ (F := F)) 𝒱₀ c none) Set.univ (k0_part92 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold copyRes recvRes
  iintro ⟨⟨#ISagS1_31, TSagS1_31, #RSagS1_31, ASagS1_31, #IDagS1_31, TDagS1_31, #RDagS1_31⟩, SrcagS1_31, ⟨%gagS1_31, DstagS1_31⟩, ⟨#IrsS0_1, ArsS0_1, CrsS0_1⟩, ⟨#IrsS0_2, ArsS0_2, CrsS0_2⟩, ⟨#IrsS0_3, ArsS0_3, CrsS0_3⟩, #Hlev, HO, Hk⟩
  sl_exec_parts (disch := simp only [dev155_eq])
  iapply (wp_send_ag m K c 1 31 (by decide) gagS1_31 (W) (O + tallyAt (dmaCell (fwd c 31) agR 1 31) () Nc) (O) rfl) $$ [TSagS1_31 TDagS1_31 SrcagS1_31 DstagS1_31 HO]
  · isplitr; · iexact ISagS1_31
    isplitr; · iexact IDagS1_31
    isplitl [SrcagS1_31]; · iexact SrcagS1_31
    isplitl [DstagS1_31]; · iexact DstagS1_31
    isplitl [HO]; · iexact HO
    isplitl [TSagS1_31]; · iexact TSagS1_31
    isplitr; · iexact RSagS1_31
    isplitl [TDagS1_31]; · iexact TDagS1_31
    iexact RDagS1_31
  iintro ⟨CSagS1_31, HO⟩
  sl_exec_parts (disch := simp only [dev155_eq])
  sl_step
  iapply Hk
  isplitl [ASagS1_31 CSagS1_31]
  · (try unfold recvRes)
    isplitr; · iexact ISagS1_31
    isplitl [ASagS1_31]; · iexact ASagS1_31
    iexact CSagS1_31
  isplitl [ArsS0_1_pay1]; · iexact ArsS0_1_pay1
  isplitl [ArsS0_1]; · (isplitr; · iexact IrsS0_1); iexact ArsS0_1
  isplitl [ArsS0_2_pay1]; · iexact ArsS0_2_pay1
  isplitl [ArsS0_2]; · (isplitr; · iexact IrsS0_2); iexact ArsS0_2
  isplitl [ArsS0_3_pay1]; · iexact ArsS0_3_pay1
  isplitl [ArsS0_3]; · (isplitr; · iexact IrsS0_3); iexact ArsS0_3
  iexact HO

end Cert.KernelIdeal.AllReduce

end
-- ==== Proof.BodyWaitsA.lean ====
/-
  The receive waits of the reduce phase, half 0: each hands the device one filled slot.
  One statement per printed part of the kernel body, over the resources that part touches and nothing else.
-/
import proofs.«900438_g7700000000000439_dist_gemm_ar_m1024_k1024_n1024_f32_gelu_v7x_i32_1_alg».proof.Proof.BodyTables
noncomputable section
namespace Cert.KernelIdeal.AllReduce
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_rsR in
set_option maxHeartbeats 4000000 in
theorem part36_spec (c : Dev nD) (v2 : BitVec 32) (W : Waits sig Unit) (Q : (PUnit) → sProp 𝕄) :
    iprop(recvRes m K rsR c 0 2
      ∗ recvRes m K rsR c 0 3
      ∗ levAts L lv
      ∗ owes (c : Thread nD τ) (owedAfter c 93) W
      ∗ (∀ r, (((slot 0 2).view.loc (c : Thread nD τ) ↦[(slot 0 2).view.set]{fullShare} (slot 0 2).view.rep (sent m (bwd c 2) c 0))
        ∗ (cellInv ER (sched m) (K (dmaCell c rsR 0 2)) (dmaCell c rsR 0 2) ∗ atPos ER (dmaCell c rsR 0 2) 1 ∅ 0)
        ∗ ((slot 0 3).view.loc (c : Thread nD τ) ↦[(slot 0 3).view.set]{fullShare} (slot 0 3).view.rep (sent m (bwd c 3) c 0))
        ∗ (cellInv ER (sched m) (K (dmaCell c rsR 0 3)) (dmaCell c rsR 0 3) ∗ atPos ER (dmaCell c rsR 0 3) 1 ∅ 0)
        ∗ owes (c : Thread nD τ) (owedAfter c 93) (insert (SemLoc.dma (semAt (arr rsR) 0 3), ()) (insert (SemLoc.dma (semAt (arr rsR) 0 2), ()) (W)))) -∗ Q r))
      ⊢ wp frame (wpE (defs₀ (F := F)) 𝒱₀ c none) Set.univ (k0_part36 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR0_2, ArsR0_2, CrsR0_2⟩, ⟨#IrsR0_3, ArsR0_3, CrsR0_3⟩, #Hlev, HO, Hk⟩
  have hmwrsR0_2 := mayWait_rsR0 (F := F) c 2
  have hmwrsR0_3 := mayWait_rsR0 (F := F) c 3
  sl_exec_parts
  sl_step
  iapply Hk
  isplitl [ArsR0_2_pay1]; · iexact ArsR0_2_pay1
  isplitl [ArsR0_2]; · (isplitr; · iexact IrsR0_2); iexact ArsR0_2
  isplitl [ArsR0_3_pay1]; · iexact ArsR0_3_pay1
  isplitl [ArsR0_3]; · (isplitr; · iexact IrsR0_3); iexact ArsR0_3
  iexact HO

attribute [local sl_rounds] duties_dma amount_dma expect_dma pay_rsR in
set_option maxHeartbeats 4000000 in
theorem part37_spec (c : Dev nD) (v2 : BitVec 32) (W : Waits sig Unit) (Q : (PUnit) → sProp 𝕄) :
    iprop(recvRes m K rsR c 0 4
      ∗ recvRes m K rsR c 0 5
      ∗ levAts L lv
      ∗ owes (c : Thread nD τ) (owedAfter c 93) W
      ∗ (∀ r, (((slot 0 4).view.loc (c : Thread nD τ) ↦[(slot 0 4).view.set]{fullShare} (slot 0 4).view.rep (sent m (bwd c 4) c 0))
        ∗ (cellInv ER (sched m) (K (dmaCell c rsR 0 4)) (dmaCell c rsR 0 4) ∗ atPos ER (dmaCell c rsR 0 4) 1 ∅ 0)
        ∗ ((slot 0 5).view.loc (c : Thread nD τ) ↦[(slot 0 5).view.set]{fullShare} (slot 0 5).view.rep (sent m (bwd c 5) c 0))
        ∗ (cellInv ER (sched m) (K (dmaCell c rsR 0 5)) (dmaCell c rsR 0 5) ∗ atPos ER (dmaCell c rsR 0 5) 1 ∅ 0)
        ∗ owes (c : Thread nD τ) (owedAfter c 93) (insert (SemLoc.dma (semAt (arr rsR) 0 5), ()) (insert (SemLoc.dma (semAt (arr rsR) 0 4), ()) (W)))) -∗ Q r))
      ⊢ wp frame (wpE (defs₀ (F := F)) 𝒱₀ c none) Set.univ (k0_part37 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR0_4, ArsR0_4, CrsR0_4⟩, ⟨#IrsR0_5, ArsR0_5, CrsR0_5⟩, #Hlev, HO, Hk⟩
  have hmwrsR0_4 := mayWait_rsR0 (F := F) c 4
  have hmwrsR0_5 := mayWait_rsR0 (F := F) c 5
  sl_exec_parts
  sl_step
  iapply Hk
  isplitl [ArsR0_4_pay1]; · iexact ArsR0_4_pay1
  isplitl [ArsR0_4]; · (isplitr; · iexact IrsR0_4); iexact ArsR0_4
  isplitl [ArsR0_5_pay1]; · iexact ArsR0_5_pay1
  isplitl [ArsR0_5]; · (isplitr; · iexact IrsR0_5); iexact ArsR0_5
  iexact HO

attribute [local sl_rounds] duties_dma amount_dma expect_dma pay_rsR in
set_option maxHeartbeats 4000000 in
theorem part38_spec (c : Dev nD) (v2 : BitVec 32) (W : Waits sig Unit) (Q : (PUnit) → sProp 𝕄) :
    iprop(recvRes m K rsR c 0 6
      ∗ recvRes m K rsR c 0 7
      ∗ levAts L lv
      ∗ owes (c : Thread nD τ) (owedAfter c 93) W
      ∗ (∀ r, (((slot 0 6).view.loc (c : Thread nD τ) ↦[(slot 0 6).view.set]{fullShare} (slot 0 6).view.rep (sent m (bwd c 6) c 0))
        ∗ (cellInv ER (sched m) (K (dmaCell c rsR 0 6)) (dmaCell c rsR 0 6) ∗ atPos ER (dmaCell c rsR 0 6) 1 ∅ 0)
        ∗ ((slot 0 7).view.loc (c : Thread nD τ) ↦[(slot 0 7).view.set]{fullShare} (slot 0 7).view.rep (sent m (bwd c 7) c 0))
        ∗ (cellInv ER (sched m) (K (dmaCell c rsR 0 7)) (dmaCell c rsR 0 7) ∗ atPos ER (dmaCell c rsR 0 7) 1 ∅ 0)
        ∗ owes (c : Thread nD τ) (owedAfter c 93) (insert (SemLoc.dma (semAt (arr rsR) 0 7), ()) (insert (SemLoc.dma (semAt (arr rsR) 0 6), ()) (W)))) -∗ Q r))
      ⊢ wp frame (wpE (defs₀ (F := F)) 𝒱₀ c none) Set.univ (k0_part38 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR0_6, ArsR0_6, CrsR0_6⟩, ⟨#IrsR0_7, ArsR0_7, CrsR0_7⟩, #Hlev, HO, Hk⟩
  have hmwrsR0_6 := mayWait_rsR0 (F := F) c 6
  have hmwrsR0_7 := mayWait_rsR0 (F := F) c 7
  sl_exec_parts
  sl_step
  iapply Hk
  isplitl [ArsR0_6_pay1]; · iexact ArsR0_6_pay1
  isplitl [ArsR0_6]; · (isplitr; · iexact IrsR0_6); iexact ArsR0_6
  isplitl [ArsR0_7_pay1]; · iexact ArsR0_7_pay1
  isplitl [ArsR0_7]; · (isplitr; · iexact IrsR0_7); iexact ArsR0_7
  iexact HO

attribute [local sl_rounds] duties_dma amount_dma expect_dma pay_rsR in
set_option maxHeartbeats 4000000 in
theorem part39_spec (c : Dev nD) (v2 : BitVec 32) (W : Waits sig Unit) (Q : (PUnit) → sProp 𝕄) :
    iprop(recvRes m K rsR c 0 8
      ∗ recvRes m K rsR c 0 9
      ∗ recvRes m K rsR c 0 10
      ∗ levAts L lv
      ∗ owes (c : Thread nD τ) (owedAfter c 93) W
      ∗ (∀ r, (((slot 0 8).view.loc (c : Thread nD τ) ↦[(slot 0 8).view.set]{fullShare} (slot 0 8).view.rep (sent m (bwd c 8) c 0))
        ∗ (cellInv ER (sched m) (K (dmaCell c rsR 0 8)) (dmaCell c rsR 0 8) ∗ atPos ER (dmaCell c rsR 0 8) 1 ∅ 0)
        ∗ ((slot 0 9).view.loc (c : Thread nD τ) ↦[(slot 0 9).view.set]{fullShare} (slot 0 9).view.rep (sent m (bwd c 9) c 0))
        ∗ (cellInv ER (sched m) (K (dmaCell c rsR 0 9)) (dmaCell c rsR 0 9) ∗ atPos ER (dmaCell c rsR 0 9) 1 ∅ 0)
        ∗ ((slot 0 10).view.loc (c : Thread nD τ) ↦[(slot 0 10).view.set]{fullShare} (slot 0 10).view.rep (sent m (bwd c 10) c 0))
        ∗ (cellInv ER (sched m) (K (dmaCell c rsR 0 10)) (dmaCell c rsR 0 10) ∗ atPos ER (dmaCell c rsR 0 10) 1 ∅ 0)
        ∗ owes (c : Thread nD τ) (owedAfter c 93) (insert (SemLoc.dma (semAt (arr rsR) 0 10), ()) (insert (SemLoc.dma (semAt (arr rsR) 0 9), ()) (insert (SemLoc.dma (semAt (arr rsR) 0 8), ()) (W))))) -∗ Q r))
      ⊢ wp frame (wpE (defs₀ (F := F)) 𝒱₀ c none) Set.univ (k0_part39 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR0_8, ArsR0_8, CrsR0_8⟩, ⟨#IrsR0_9, ArsR0_9, CrsR0_9⟩, ⟨#IrsR0_10, ArsR0_10, CrsR0_10⟩, #Hlev, HO, Hk⟩
  have hmwrsR0_8 := mayWait_rsR0 (F := F) c 8
  have hmwrsR0_9 := mayWait_rsR0 (F := F) c 9
  have hmwrsR0_10 := mayWait_rsR0 (F := F) c 10
  sl_exec_parts
  sl_step
  iapply Hk
  isplitl [ArsR0_8_pay1]; · iexact ArsR0_8_pay1
  isplitl [ArsR0_8]; · (isplitr; · iexact IrsR0_8); iexact ArsR0_8
  isplitl [ArsR0_9_pay1]; · iexact ArsR0_9_pay1
  isplitl [ArsR0_9]; · (isplitr; · iexact IrsR0_9); iexact ArsR0_9
  isplitl [ArsR0_10_pay1]; · iexact ArsR0_10_pay1
  isplitl [ArsR0_10]; · (isplitr; · iexact IrsR0_10); iexact ArsR0_10
  iexact HO

attribute [local sl_rounds] duties_dma amount_dma expect_dma pay_rsR in
set_option maxHeartbeats 4000000 in
theorem part40_spec (c : Dev nD) (v2 : BitVec 32) (W : Waits sig Unit) (Q : (BitVec 32) → sProp 𝕄) :
    iprop(recvRes m K rsR c 0 11
      ∗ recvRes m K rsR c 0 12
      ∗ levAts L lv
      ∗ owes (c : Thread nD τ) (owedAfter c 93) W
      ∗ (∀ r, (((slot 0 11).view.loc (c : Thread nD τ) ↦[(slot 0 11).view.set]{fullShare} (slot 0 11).view.rep (sent m (bwd c 11) c 0))
        ∗ (cellInv ER (sched m) (K (dmaCell c rsR 0 11)) (dmaCell c rsR 0 11) ∗ atPos ER (dmaCell c rsR 0 11) 1 ∅ 0)
        ∗ ((slot 0 12).view.loc (c : Thread nD τ) ↦[(slot 0 12).view.set]{fullShare} (slot 0 12).view.rep (sent m (bwd c 12) c 0))
        ∗ (cellInv ER (sched m) (K (dmaCell c rsR 0 12)) (dmaCell c rsR 0 12) ∗ atPos ER (dmaCell c rsR 0 12) 1 ∅ 0)
        ∗ owes (c : Thread nD τ) (owedAfter c 93) (insert (SemLoc.dma (semAt (arr rsR) 0 12), ()) (insert (SemLoc.dma (semAt (arr rsR) 0 11), ()) (W)))) -∗ Q r))
      ⊢ wp frame (wpE (defs₀ (F := F)) 𝒱₀ c none) Set.univ (k0_part40 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR0_11, ArsR0_11, CrsR0_11⟩, ⟨#IrsR0_12, ArsR0_12, CrsR0_12⟩, #Hlev, HO, Hk⟩
  have hmwrsR0_11 := mayWait_rsR0 (F := F) c 11
  have hmwrsR0_12 := mayWait_rsR0 (F := F) c 12
  sl_exec_parts
  sl_step
  iapply Hk
  isplitl [ArsR0_11_pay1]; · iexact ArsR0_11_pay1
  isplitl [ArsR0_11]; · (isplitr; · iexact IrsR0_11); iexact ArsR0_11
  isplitl [ArsR0_12_pay1]; · iexact ArsR0_12_pay1
  isplitl [ArsR0_12]; · (isplitr; · iexact IrsR0_12); iexact ArsR0_12
  iexact HO

attribute [local sl_rounds] duties_dma amount_dma expect_dma pay_rsR in
set_option maxHeartbeats 4000000 in
theorem part41_spec (c : Dev nD) (v2 : BitVec 32) (v1034 : BitVec 32) (W : Waits sig Unit) (Q : (BitVec 32) → sProp 𝕄) :
    iprop(recvRes m K rsR c 0 13
      ∗ recvRes m K rsR c 0 14
      ∗ levAts L lv
      ∗ owes (c : Thread nD τ) (owedAfter c 93) W
      ∗ (∀ r, (((slot 0 13).view.loc (c : Thread nD τ) ↦[(slot 0 13).view.set]{fullShare} (slot 0 13).view.rep (sent m (bwd c 13) c 0))
        ∗ (cellInv ER (sched m) (K (dmaCell c rsR 0 13)) (dmaCell c rsR 0 13) ∗ atPos ER (dmaCell c rsR 0 13) 1 ∅ 0)
        ∗ ((slot 0 14).view.loc (c : Thread nD τ) ↦[(slot 0 14).view.set]{fullShare} (slot 0 14).view.rep (sent m (bwd c 14) c 0))
        ∗ (cellInv ER (sched m) (K (dmaCell c rsR 0 14)) (dmaCell c rsR 0 14) ∗ atPos ER (dmaCell c rsR 0 14) 1 ∅ 0)
        ∗ owes (c : Thread nD τ) (owedAfter c 93) (insert (SemLoc.dma (semAt (arr rsR) 0 14), ()) (insert (SemLoc.dma (semAt (arr rsR) 0 13), ()) (W)))) -∗ Q r))
      ⊢ wp frame (wpE (defs₀ (F := F)) 𝒱₀ c none) Set.univ (k0_part41 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1034) Q := by
  unfold recvRes
  iintro ⟨⟨#IrsR0_13, ArsR0_13, CrsR0_13⟩, ⟨#IrsR0_14, ArsR0_14, CrsR0_14⟩, #Hlev, HO, Hk⟩
  have hmwrsR0_13 := mayWait_rsR0 (F := F) c 13
  have hmwrsR0_14 := mayWait_rsR0 (F := F) c 14
  sl_exec_parts
  sl_step
  iapply Hk
  isplitl [ArsR0_13_pay1]; · iexact ArsR0_13_pay1
  isplitl [ArsR0_13]; · (isplitr; · iexact IrsR0_13); iexact ArsR0_13
  isplitl [ArsR0_14_pay1]; · iexact ArsR0_14_pay1
  isplitl [ArsR0_14]; · (isplitr; · iexact IrsR0_14); iexact ArsR0_14
  iexact HO

attribute [local sl_rounds] duties_dma amount_dma expect_dma pay_rsR in
set_option maxHeartbeats 4000000 in
theorem part42_spec (c : Dev nD) (v2 : BitVec 32) (v1057 : BitVec 32) (W : Waits sig Unit) (Q : (BitVec 32) → sProp 𝕄) :
    iprop(recvRes m K rsR c 0 15
      ∗ recvRes m K rsR c 0 16
      ∗ levAts L lv
      ∗ owes (c : Thread nD τ) (owedAfter c 93) W
      ∗ (∀ r, (((slot 0 15).view.loc (c : Thread nD τ) ↦[(slot 0 15).view.set]{fullShare} (slot 0 15).view.rep (sent m (bwd c 15) c 0))
        ∗ (cellInv ER (sched m) (K (dmaCell c rsR 0 15)) (dmaCell c rsR 0 15) ∗ atPos ER (dmaCell c rsR 0 15) 1 ∅ 0)
        ∗ ((slot 0 16).view.loc (c : Thread nD τ) ↦[(slot 0 16).view.set]{fullShare} (slot 0 16).view.rep (sent m (bwd c 16) c 0))
        ∗ (cellInv ER (sched m) (K (dmaCell c rsR 0 16)) (dmaCell c rsR 0 16) ∗ atPos ER (dmaCell c rsR 0 16) 1 ∅ 0)
        ∗ owes (c : Thread nD τ) (owedAfter c 93) (insert (SemLoc.dma (semAt (arr rsR) 0 16), ()) (insert (SemLoc.dma (semAt (arr rsR) 0 15), ()) (W)))) -∗ Q r))
      ⊢ wp frame (wpE (defs₀ (F := F)) 𝒱₀ c none) Set.univ (k0_part42 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1057) Q := by
  unfold recvRes
  iintro ⟨⟨#IrsR0_15, ArsR0_15, CrsR0_15⟩, ⟨#IrsR0_16, ArsR0_16, CrsR0_16⟩, #Hlev, HO, Hk⟩
  have hmwrsR0_15 := mayWait_rsR0 (F := F) c 15
  have hmwrsR0_16 := mayWait_rsR0 (F := F) c 16
  sl_exec_parts
  sl_step
  iapply Hk
  isplitl [ArsR0_15_pay1]; · iexact ArsR0_15_pay1
  isplitl [ArsR0_15]; · (isplitr; · iexact IrsR0_15); iexact ArsR0_15
  isplitl [ArsR0_16_pay1]; · iexact ArsR0_16_pay1
  isplitl [ArsR0_16]; · (isplitr; · iexact IrsR0_16); iexact ArsR0_16
  iexact HO

attribute [local sl_rounds] duties_dma amount_dma expect_dma pay_rsR in
set_option maxHeartbeats 4000000 in
theorem part43_spec (c : Dev nD) (v2 : BitVec 32) (v1080 : BitVec 32) (W : Waits sig Unit) (Q : (BitVec 32) → sProp 𝕄) :
    iprop(recvRes m K rsR c 0 17
      ∗ recvRes m K rsR c 0 18
      ∗ levAts L lv
      ∗ owes (c : Thread nD τ) (owedAfter c 93) W
      ∗ (∀ r, (((slot 0 17).view.loc (c : Thread nD τ) ↦[(slot 0 17).view.set]{fullShare} (slot 0 17).view.rep (sent m (bwd c 17) c 0))
        ∗ (cellInv ER (sched m) (K (dmaCell c rsR 0 17)) (dmaCell c rsR 0 17) ∗ atPos ER (dmaCell c rsR 0 17) 1 ∅ 0)
        ∗ ((slot 0 18).view.loc (c : Thread nD τ) ↦[(slot 0 18).view.set]{fullShare} (slot 0 18).view.rep (sent m (bwd c 18) c 0))
        ∗ (cellInv ER (sched m) (K (dmaCell c rsR 0 18)) (dmaCell c rsR 0 18) ∗ atPos ER (dmaCell c rsR 0 18) 1 ∅ 0)
        ∗ owes (c : Thread nD τ) (owedAfter c 93) (insert (SemLoc.dma (semAt (arr rsR) 0 18), ()) (insert (SemLoc.dma (semAt (arr rsR) 0 17), ()) (W)))) -∗ Q r))
      ⊢ wp frame (wpE (defs₀ (F := F)) 𝒱₀ c none) Set.univ (k0_part43 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1080) Q := by
  unfold recvRes
  iintro ⟨⟨#IrsR0_17, ArsR0_17, CrsR0_17⟩, ⟨#IrsR0_18, ArsR0_18, CrsR0_18⟩, #Hlev, HO, Hk⟩
  have hmwrsR0_17 := mayWait_rsR0 (F := F) c 17
  have hmwrsR0_18 := mayWait_rsR0 (F := F) c 18
  sl_exec_parts
  sl_step
  iapply Hk
  isplitl [ArsR0_17_pay1]; · iexact ArsR0_17_pay1
  isplitl [ArsR0_17]; · (isplitr; · iexact IrsR0_17); iexact ArsR0_17
  isplitl [ArsR0_18_pay1]; · iexact ArsR0_18_pay1
  isplitl [ArsR0_18]; · (isplitr; · iexact IrsR0_18); iexact ArsR0_18
  iexact HO

attribute [local sl_rounds] duties_dma amount_dma expect_dma pay_rsR in
set_option maxHeartbeats 4000000 in
theorem part44_spec (c : Dev nD) (v2 : BitVec 32) (v1102 : BitVec 32) (W : Waits sig Unit) (Q : (BitVec 32) → sProp 𝕄) :
    iprop(recvRes m K rsR c 0 19
      ∗ recvRes m K rsR c 0 20
      ∗ levAts L lv
      ∗ owes (c : Thread nD τ) (owedAfter c 93) W
      ∗ (∀ r, (((slot 0 19).view.loc (c : Thread nD τ) ↦[(slot 0 19).view.set]{fullShare} (slot 0 19).view.rep (sent m (bwd c 19) c 0))
        ∗ (cellInv ER (sched m) (K (dmaCell c rsR 0 19)) (dmaCell c rsR 0 19) ∗ atPos ER (dmaCell c rsR 0 19) 1 ∅ 0)
        ∗ ((slot 0 20).view.loc (c : Thread nD τ) ↦[(slot 0 20).view.set]{fullShare} (slot 0 20).view.rep (sent m (bwd c 20) c 0))
        ∗ (cellInv ER (sched m) (K (dmaCell c rsR 0 20)) (dmaCell c rsR 0 20) ∗ atPos ER (dmaCell c rsR 0 20) 1 ∅ 0)
        ∗ owes (c : Thread nD τ) (owedAfter c 93) (insert (SemLoc.dma (semAt (arr rsR) 0 20), ()) (insert (SemLoc.dma (semAt (arr rsR) 0 19), ()) (W)))) -∗ Q r))
      ⊢ wp frame (wpE (defs₀ (F := F)) 𝒱₀ c none) Set.univ (k0_part44 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1102) Q := by
  unfold recvRes
  iintro ⟨⟨#IrsR0_19, ArsR0_19, CrsR0_19⟩, ⟨#IrsR0_20, ArsR0_20, CrsR0_20⟩, #Hlev, HO, Hk⟩
  have hmwrsR0_19 := mayWait_rsR0 (F := F) c 19
  have hmwrsR0_20 := mayWait_rsR0 (F := F) c 20
  sl_exec_parts
  sl_step
  iapply Hk
  isplitl [ArsR0_19_pay1]; · iexact ArsR0_19_pay1
  isplitl [ArsR0_19]; · (isplitr; · iexact IrsR0_19); iexact ArsR0_19
  isplitl [ArsR0_20_pay1]; · iexact ArsR0_20_pay1
  isplitl [ArsR0_20]; · (isplitr; · iexact IrsR0_20); iexact ArsR0_20
  iexact HO

attribute [local sl_rounds] duties_dma amount_dma expect_dma pay_rsR in
set_option maxHeartbeats 4000000 in
theorem part45_spec (c : Dev nD) (v2 : BitVec 32) (v1124 : BitVec 32) (W : Waits sig Unit) (Q : (BitVec 32) → sProp 𝕄) :
    iprop(recvRes m K rsR c 0 21
      ∗ recvRes m K rsR c 0 22
      ∗ levAts L lv
      ∗ owes (c : Thread nD τ) (owedAfter c 93) W
      ∗ (∀ r, (((slot 0 21).view.loc (c : Thread nD τ) ↦[(slot 0 21).view.set]{fullShare} (slot 0 21).view.rep (sent m (bwd c 21) c 0))
        ∗ (cellInv ER (sched m) (K (dmaCell c rsR 0 21)) (dmaCell c rsR 0 21) ∗ atPos ER (dmaCell c rsR 0 21) 1 ∅ 0)
        ∗ ((slot 0 22).view.loc (c : Thread nD τ) ↦[(slot 0 22).view.set]{fullShare} (slot 0 22).view.rep (sent m (bwd c 22) c 0))
        ∗ (cellInv ER (sched m) (K (dmaCell c rsR 0 22)) (dmaCell c rsR 0 22) ∗ atPos ER (dmaCell c rsR 0 22) 1 ∅ 0)
        ∗ owes (c : Thread nD τ) (owedAfter c 93) (insert (SemLoc.dma (semAt (arr rsR) 0 22), ()) (insert (SemLoc.dma (semAt (arr rsR) 0 21), ()) (W)))) -∗ Q r))
      ⊢ wp frame (wpE (defs₀ (F := F)) 𝒱₀ c none) Set.univ (k0_part45 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1124) Q := by
  unfold recvRes
  iintro ⟨⟨#IrsR0_21, ArsR0_21, CrsR0_21⟩, ⟨#IrsR0_22, ArsR0_22, CrsR0_22⟩, #Hlev, HO, Hk⟩
  have hmwrsR0_21 := mayWait_rsR0 (F := F) c 21
  have hmwrsR0_22 := mayWait_rsR0 (F := F) c 22
  sl_exec_parts
  sl_step
  iapply Hk
  isplitl [ArsR0_21_pay1]; · iexact ArsR0_21_pay1
  isplitl [ArsR0_21]; · (isplitr; · iexact IrsR0_21); iexact ArsR0_21
  isplitl [ArsR0_22_pay1]; · iexact ArsR0_22_pay1
  isplitl [ArsR0_22]; · (isplitr; · iexact IrsR0_22); iexact ArsR0_22
  iexact HO

attribute [local sl_rounds] duties_dma amount_dma expect_dma pay_rsR in
set_option maxHeartbeats 4000000 in
theorem part46_spec (c : Dev nD) (v2 : BitVec 32) (v1146 : BitVec 32) (W : Waits sig Unit) (Q : (BitVec 32) → sProp 𝕄) :
    iprop(recvRes m K rsR c 0 23
      ∗ recvRes m K rsR c 0 24
      ∗ levAts L lv
      ∗ owes (c : Thread nD τ) (owedAfter c 93) W
      ∗ (∀ r, (((slot 0 23).view.loc (c : Thread nD τ) ↦[(slot 0 23).view.set]{fullShare} (slot 0 23).view.rep (sent m (bwd c 23) c 0))
        ∗ (cellInv ER (sched m) (K (dmaCell c rsR 0 23)) (dmaCell c rsR 0 23) ∗ atPos ER (dmaCell c rsR 0 23) 1 ∅ 0)
        ∗ ((slot 0 24).view.loc (c : Thread nD τ) ↦[(slot 0 24).view.set]{fullShare} (slot 0 24).view.rep (sent m (bwd c 24) c 0))
        ∗ (cellInv ER (sched m) (K (dmaCell c rsR 0 24)) (dmaCell c rsR 0 24) ∗ atPos ER (dmaCell c rsR 0 24) 1 ∅ 0)
        ∗ owes (c : Thread nD τ) (owedAfter c 93) (insert (SemLoc.dma (semAt (arr rsR) 0 24), ()) (insert (SemLoc.dma (semAt (arr rsR) 0 23), ()) (W)))) -∗ Q r))
      ⊢ wp frame (wpE (defs₀ (F := F)) 𝒱₀ c none) Set.univ (k0_part46 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1146) Q := by
  unfold recvRes
  iintro ⟨⟨#IrsR0_23, ArsR0_23, CrsR0_23⟩, ⟨#IrsR0_24, ArsR0_24, CrsR0_24⟩, #Hlev, HO, Hk⟩
  have hmwrsR0_23 := mayWait_rsR0 (F := F) c 23
  have hmwrsR0_24 := mayWait_rsR0 (F := F) c 24
  sl_exec_parts
  sl_step
  iapply Hk
  isplitl [ArsR0_23_pay1]; · iexact ArsR0_23_pay1
  isplitl [ArsR0_23]; · (isplitr; · iexact IrsR0_23); iexact ArsR0_23
  isplitl [ArsR0_24_pay1]; · iexact ArsR0_24_pay1
  isplitl [ArsR0_24]; · (isplitr; · iexact IrsR0_24); iexact ArsR0_24
  iexact HO

attribute [local sl_rounds] duties_dma amount_dma expect_dma pay_rsR in
set_option maxHeartbeats 4000000 in
theorem part47_spec (c : Dev nD) (v2 : BitVec 32) (v1168 : BitVec 32) (W : Waits sig Unit) (Q : (BitVec 32) → sProp 𝕄) :
    iprop(recvRes m K rsR c 0 25
      ∗ recvRes m K rsR c 0 26
      ∗ levAts L lv
      ∗ owes (c : Thread nD τ) (owedAfter c 93) W
      ∗ (∀ r, (((slot 0 25).view.loc (c : Thread nD τ) ↦[(slot 0 25).view.set]{fullShare} (slot 0 25).view.rep (sent m (bwd c 25) c 0))
        ∗ (cellInv ER (sched m) (K (dmaCell c rsR 0 25)) (dmaCell c rsR 0 25) ∗ atPos ER (dmaCell c rsR 0 25) 1 ∅ 0)
        ∗ ((slot 0 26).view.loc (c : Thread nD τ) ↦[(slot 0 26).view.set]{fullShare} (slot 0 26).view.rep (sent m (bwd c 26) c 0))
        ∗ (cellInv ER (sched m) (K (dmaCell c rsR 0 26)) (dmaCell c rsR 0 26) ∗ atPos ER (dmaCell c rsR 0 26) 1 ∅ 0)
        ∗ owes (c : Thread nD τ) (owedAfter c 93) (insert (SemLoc.dma (semAt (arr rsR) 0 26), ()) (insert (SemLoc.dma (semAt (arr rsR) 0 25), ()) (W)))) -∗ Q r))
      ⊢ wp frame (wpE (defs₀ (F := F)) 𝒱₀ c none) Set.univ (k0_part47 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1168) Q := by
  unfold recvRes
  iintro ⟨⟨#IrsR0_25, ArsR0_25, CrsR0_25⟩, ⟨#IrsR0_26, ArsR0_26, CrsR0_26⟩, #Hlev, HO, Hk⟩
  have hmwrsR0_25 := mayWait_rsR0 (F := F) c 25
  have hmwrsR0_26 := mayWait_rsR0 (F := F) c 26
  sl_exec_parts
  sl_step
  iapply Hk
  isplitl [ArsR0_25_pay1]; · iexact ArsR0_25_pay1
  isplitl [ArsR0_25]; · (isplitr; · iexact IrsR0_25); iexact ArsR0_25
  isplitl [ArsR0_26_pay1]; · iexact ArsR0_26_pay1
  isplitl [ArsR0_26]; · (isplitr; · iexact IrsR0_26); iexact ArsR0_26
  iexact HO

attribute [local sl_rounds] duties_dma amount_dma expect_dma pay_rsR in
set_option maxHeartbeats 4000000 in
theorem part48_spec (c : Dev nD) (v2 : BitVec 32) (v1191 : BitVec 32) (W : Waits sig Unit) (Q : (PUnit) → sProp 𝕄) :
    iprop(recvRes m K rsR c 0 27
      ∗ recvRes m K rsR c 0 28
      ∗ levAts L lv
      ∗ owes (c : Thread nD τ) (owedAfter c 93) W
      ∗ (∀ r, (((slot 0 27).view.loc (c : Thread nD τ) ↦[(slot 0 27).view.set]{fullShare} (slot 0 27).view.rep (sent m (bwd c 27) c 0))
        ∗ (cellInv ER (sched m) (K (dmaCell c rsR 0 27)) (dmaCell c rsR 0 27) ∗ atPos ER (dmaCell c rsR 0 27) 1 ∅ 0)
        ∗ ((slot 0 28).view.loc (c : Thread nD τ) ↦[(slot 0 28).view.set]{fullShare} (slot 0 28).view.rep (sent m (bwd c 28) c 0))
        ∗ (cellInv ER (sched m) (K (dmaCell c rsR 0 28)) (dmaCell c rsR 0 28) ∗ atPos ER (dmaCell c rsR 0 28) 1 ∅ 0)
        ∗ owes (c : Thread nD τ) (owedAfter c 93) (insert (SemLoc.dma (semAt (arr rsR) 0 28), ()) (insert (SemLoc.dma (semAt (arr rsR) 0 27), ()) (W)))) -∗ Q r))
      ⊢ wp frame (wpE (defs₀ (F := F)) 𝒱₀ c none) Set.univ (k0_part48 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1191) Q := by
  unfold recvRes
  iintro ⟨⟨#IrsR0_27, ArsR0_27, CrsR0_27⟩, ⟨#IrsR0_28, ArsR0_28, CrsR0_28⟩, #Hlev, HO, Hk⟩
  have hmwrsR0_27 := mayWait_rsR0 (F := F) c 27
  have hmwrsR0_28 := mayWait_rsR0 (F := F) c 28
  sl_exec_parts
  sl_step
  iapply Hk
  isplitl [ArsR0_27_pay1]; · iexact ArsR0_27_pay1
  isplitl [ArsR0_27]; · (isplitr; · iexact IrsR0_27); iexact ArsR0_27
  isplitl [ArsR0_28_pay1]; · iexact ArsR0_28_pay1
  isplitl [ArsR0_28]; · (isplitr; · iexact IrsR0_28); iexact ArsR0_28
  iexact HO

attribute [local sl_rounds] duties_dma amount_dma expect_dma pay_rsR in
set_option maxHeartbeats 4000000 in
theorem part49_spec (c : Dev nD) (v2 : BitVec 32) (W : Waits sig Unit) (Q : (PUnit) → sProp 𝕄) :
    iprop(recvRes m K rsR c 0 29
      ∗ recvRes m K rsR c 0 30
      ∗ levAts L lv
      ∗ owes (c : Thread nD τ) (owedAfter c 93) W
      ∗ (∀ r, (((slot 0 29).view.loc (c : Thread nD τ) ↦[(slot 0 29).view.set]{fullShare} (slot 0 29).view.rep (sent m (bwd c 29) c 0))
        ∗ (cellInv ER (sched m) (K (dmaCell c rsR 0 29)) (dmaCell c rsR 0 29) ∗ atPos ER (dmaCell c rsR 0 29) 1 ∅ 0)
        ∗ ((slot 0 30).view.loc (c : Thread nD τ) ↦[(slot 0 30).view.set]{fullShare} (slot 0 30).view.rep (sent m (bwd c 30) c 0))
        ∗ (cellInv ER (sched m) (K (dmaCell c rsR 0 30)) (dmaCell c rsR 0 30) ∗ atPos ER (dmaCell c rsR 0 30) 1 ∅ 0)
        ∗ owes (c : Thread nD τ) (owedAfter c 93) (insert (SemLoc.dma (semAt (arr rsR) 0 30), ()) (insert (SemLoc.dma (semAt (arr rsR) 0 29), ()) (W)))) -∗ Q r))
      ⊢ wp frame (wpE (defs₀ (F := F)) 𝒱₀ c none) Set.univ (k0_part49 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR0_29, ArsR0_29, CrsR0_29⟩, ⟨#IrsR0_30, ArsR0_30, CrsR0_30⟩, #Hlev, HO, Hk⟩
  have hmwrsR0_29 := mayWait_rsR0 (F := F) c 29
  have hmwrsR0_30 := mayWait_rsR0 (F := F) c 30
  sl_exec_parts
  sl_step
  iapply Hk
  isplitl [ArsR0_29_pay1]; · iexact ArsR0_29_pay1
  isplitl [ArsR0_29]; · (isplitr; · iexact IrsR0_29); iexact ArsR0_29
  isplitl [ArsR0_30_pay1]; · iexact ArsR0_30_pay1
  isplitl [ArsR0_30]; · (isplitr; · iexact IrsR0_30); iexact ArsR0_30
  iexact HO

end Cert.KernelIdeal.AllReduce

end
-- ==== Proof.BodyWaitsB.lean ====
/-
  The receive waits of the reduce phase, half 1.
  One statement per printed part of the kernel body, over the resources that part touches and nothing else.
-/
import proofs.«900438_g7700000000000439_dist_gemm_ar_m1024_k1024_n1024_f32_gelu_v7x_i32_1_alg».proof.Proof.BodyTables
noncomputable section
namespace Cert.KernelIdeal.AllReduce
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_rsR in
set_option maxHeartbeats 4000000 in
theorem part64_spec (c : Dev nD) (v2 : BitVec 32) (W : Waits sig Unit) (Q : (PUnit) → sProp 𝕄) :
    iprop(recvRes m K rsR c 1 1
      ∗ recvRes m K rsR c 1 2
      ∗ levAts L lv
      ∗ owes (c : Thread nD τ) (owedAfter c 124) W
      ∗ (∀ r, (((slot 1 1).view.loc (c : Thread nD τ) ↦[(slot 1 1).view.set]{fullShare} (slot 1 1).view.rep (sent m (bwd c 1) c 1))
        ∗ (cellInv ER (sched m) (K (dmaCell c rsR 1 1)) (dmaCell c rsR 1 1) ∗ atPos ER (dmaCell c rsR 1 1) 1 ∅ 0)
        ∗ ((slot 1 2).view.loc (c : Thread nD τ) ↦[(slot 1 2).view.set]{fullShare} (slot 1 2).view.rep (sent m (bwd c 2) c 1))
        ∗ (cellInv ER (sched m) (K (dmaCell c rsR 1 2)) (dmaCell c rsR 1 2) ∗ atPos ER (dmaCell c rsR 1 2) 1 ∅ 0)
        ∗ owes (c : Thread nD τ) (owedAfter c 124) (insert (SemLoc.dma (semAt (arr rsR) 1 2), ()) (insert (SemLoc.dma (semAt (arr rsR) 1 1), ()) (W)))) -∗ Q r))
      ⊢ wp frame (wpE (defs₀ (F := F)) 𝒱₀ c none) Set.univ (k0_part64 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR1_1, ArsR1_1, CrsR1_1⟩, ⟨#IrsR1_2, ArsR1_2, CrsR1_2⟩, #Hlev, HO, Hk⟩
  have hmwrsR1_1 := mayWait_rsR1 (F := F) c 1
  have hmwrsR1_2 := mayWait_rsR1 (F := F) c 2
  sl_exec_parts
  sl_step
  iapply Hk
  isplitl [ArsR1_1_pay1]; · iexact ArsR1_1_pay1
  isplitl [ArsR1_1]; · (isplitr; · iexact IrsR1_1); iexact ArsR1_1
  isplitl [ArsR1_2_pay1]; · iexact ArsR1_2_pay1
  isplitl [ArsR1_2]; · (isplitr; · iexact IrsR1_2); iexact ArsR1_2
  iexact HO

attribute [local sl_rounds] duties_dma amount_dma expect_dma pay_rsR in
set_option maxHeartbeats 4000000 in
theorem part65_spec (c : Dev nD) (v2 : BitVec 32) (W : Waits sig Unit) (Q : (PUnit) → sProp 𝕄) :
    iprop(recvRes m K rsR c 1 3
      ∗ recvRes m K rsR c 1 4
      ∗ levAts L lv
      ∗ owes (c : Thread nD τ) (owedAfter c 124) W
      ∗ (∀ r, (((slot 1 3).view.loc (c : Thread nD τ) ↦[(slot 1 3).view.set]{fullShare} (slot 1 3).view.rep (sent m (bwd c 3) c 1))
        ∗ (cellInv ER (sched m) (K (dmaCell c rsR 1 3)) (dmaCell c rsR 1 3) ∗ atPos ER (dmaCell c rsR 1 3) 1 ∅ 0)
        ∗ ((slot 1 4).view.loc (c : Thread nD τ) ↦[(slot 1 4).view.set]{fullShare} (slot 1 4).view.rep (sent m (bwd c 4) c 1))
        ∗ (cellInv ER (sched m) (K (dmaCell c rsR 1 4)) (dmaCell c rsR 1 4) ∗ atPos ER (dmaCell c rsR 1 4) 1 ∅ 0)
        ∗ owes (c : Thread nD τ) (owedAfter c 124) (insert (SemLoc.dma (semAt (arr rsR) 1 4), ()) (insert (SemLoc.dma (semAt (arr rsR) 1 3), ()) (W)))) -∗ Q r))
      ⊢ wp frame (wpE (defs₀ (F := F)) 𝒱₀ c none) Set.univ (k0_part65 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR1_3, ArsR1_3, CrsR1_3⟩, ⟨#IrsR1_4, ArsR1_4, CrsR1_4⟩, #Hlev, HO, Hk⟩
  have hmwrsR1_3 := mayWait_rsR1 (F := F) c 3
  have hmwrsR1_4 := mayWait_rsR1 (F := F) c 4
  sl_exec_parts
  sl_step
  iapply Hk
  isplitl [ArsR1_3_pay1]; · iexact ArsR1_3_pay1
  isplitl [ArsR1_3]; · (isplitr; · iexact IrsR1_3); iexact ArsR1_3
  isplitl [ArsR1_4_pay1]; · iexact ArsR1_4_pay1
  isplitl [ArsR1_4]; · (isplitr; · iexact IrsR1_4); iexact ArsR1_4
  iexact HO

attribute [local sl_rounds] duties_dma amount_dma expect_dma pay_rsR in
set_option maxHeartbeats 4000000 in
theorem part66_spec (c : Dev nD) (v2 : BitVec 32) (W : Waits sig Unit) (Q : (PUnit) → sProp 𝕄) :
    iprop(recvRes m K rsR c 1 5
      ∗ recvRes m K rsR c 1 6
      ∗ levAts L lv
      ∗ owes (c : Thread nD τ) (owedAfter c 124) W
      ∗ (∀ r, (((slot 1 5).view.loc (c : Thread nD τ) ↦[(slot 1 5).view.set]{fullShare} (slot 1 5).view.rep (sent m (bwd c 5) c 1))
        ∗ (cellInv ER (sched m) (K (dmaCell c rsR 1 5)) (dmaCell c rsR 1 5) ∗ atPos ER (dmaCell c rsR 1 5) 1 ∅ 0)
        ∗ ((slot 1 6).view.loc (c : Thread nD τ) ↦[(slot 1 6).view.set]{fullShare} (slot 1 6).view.rep (sent m (bwd c 6) c 1))
        ∗ (cellInv ER (sched m) (K (dmaCell c rsR 1 6)) (dmaCell c rsR 1 6) ∗ atPos ER (dmaCell c rsR 1 6) 1 ∅ 0)
        ∗ owes (c : Thread nD τ) (owedAfter c 124) (insert (SemLoc.dma (semAt (arr rsR) 1 6), ()) (insert (SemLoc.dma (semAt (arr rsR) 1 5), ()) (W)))) -∗ Q r))
      ⊢ wp frame (wpE (defs₀ (F := F)) 𝒱₀ c none) Set.univ (k0_part66 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR1_5, ArsR1_5, CrsR1_5⟩, ⟨#IrsR1_6, ArsR1_6, CrsR1_6⟩, #Hlev, HO, Hk⟩
  have hmwrsR1_5 := mayWait_rsR1 (F := F) c 5
  have hmwrsR1_6 := mayWait_rsR1 (F := F) c 6
  sl_exec_parts
  sl_step
  iapply Hk
  isplitl [ArsR1_5_pay1]; · iexact ArsR1_5_pay1
  isplitl [ArsR1_5]; · (isplitr; · iexact IrsR1_5); iexact ArsR1_5
  isplitl [ArsR1_6_pay1]; · iexact ArsR1_6_pay1
  isplitl [ArsR1_6]; · (isplitr; · iexact IrsR1_6); iexact ArsR1_6
  iexact HO

attribute [local sl_rounds] duties_dma amount_dma expect_dma pay_rsR in
set_option maxHeartbeats 4000000 in
theorem part67_spec (c : Dev nD) (v2 : BitVec 32) (W : Waits sig Unit) (Q : (PUnit) → sProp 𝕄) :
    iprop(recvRes m K rsR c 1 7
      ∗ recvRes m K rsR c 1 8
      ∗ recvRes m K rsR c 1 9
      ∗ levAts L lv
      ∗ owes (c : Thread nD τ) (owedAfter c 124) W
      ∗ (∀ r, (((slot 1 7).view.loc (c : Thread nD τ) ↦[(slot 1 7).view.set]{fullShare} (slot 1 7).view.rep (sent m (bwd c 7) c 1))
        ∗ (cellInv ER (sched m) (K (dmaCell c rsR 1 7)) (dmaCell c rsR 1 7) ∗ atPos ER (dmaCell c rsR 1 7) 1 ∅ 0)
        ∗ ((slot 1 8).view.loc (c : Thread nD τ) ↦[(slot 1 8).view.set]{fullShare} (slot 1 8).view.rep (sent m (bwd c 8) c 1))
        ∗ (cellInv ER (sched m) (K (dmaCell c rsR 1 8)) (dmaCell c rsR 1 8) ∗ atPos ER (dmaCell c rsR 1 8) 1 ∅ 0)
        ∗ ((slot 1 9).view.loc (c : Thread nD τ) ↦[(slot 1 9).view.set]{fullShare} (slot 1 9).view.rep (sent m (bwd c 9) c 1))
        ∗ (cellInv ER (sched m) (K (dmaCell c rsR 1 9)) (dmaCell c rsR 1 9) ∗ atPos ER (dmaCell c rsR 1 9) 1 ∅ 0)
        ∗ owes (c : Thread nD τ) (owedAfter c 124) (insert (SemLoc.dma (semAt (arr rsR) 1 9), ()) (insert (SemLoc.dma (semAt (arr rsR) 1 8), ()) (insert (SemLoc.dma (semAt (arr rsR) 1 7), ()) (W))))) -∗ Q r))
      ⊢ wp frame (wpE (defs₀ (F := F)) 𝒱₀ c none) Set.univ (k0_part67 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR1_7, ArsR1_7, CrsR1_7⟩, ⟨#IrsR1_8, ArsR1_8, CrsR1_8⟩, ⟨#IrsR1_9, ArsR1_9, CrsR1_9⟩, #Hlev, HO, Hk⟩
  have hmwrsR1_7 := mayWait_rsR1 (F := F) c 7
  have hmwrsR1_8 := mayWait_rsR1 (F := F) c 8
  have hmwrsR1_9 := mayWait_rsR1 (F := F) c 9
  sl_exec_parts
  sl_step
  iapply Hk
  isplitl [ArsR1_7_pay1]; · iexact ArsR1_7_pay1
  isplitl [ArsR1_7]; · (isplitr; · iexact IrsR1_7); iexact ArsR1_7
  isplitl [ArsR1_8_pay1]; · iexact ArsR1_8_pay1
  isplitl [ArsR1_8]; · (isplitr; · iexact IrsR1_8); iexact ArsR1_8
  isplitl [ArsR1_9_pay1]; · iexact ArsR1_9_pay1
  isplitl [ArsR1_9]; · (isplitr; · iexact IrsR1_9); iexact ArsR1_9
  iexact HO

attribute [local sl_rounds] duties_dma amount_dma expect_dma pay_rsR in
set_option maxHeartbeats 4000000 in
theorem part68_spec (c : Dev nD) (v2 : BitVec 32) (W : Waits sig Unit) (Q : (BitVec 32) → sProp 𝕄) :
    iprop(recvRes m K rsR c 1 10
      ∗ recvRes m K rsR c 1 11
      ∗ levAts L lv
      ∗ owes (c : Thread nD τ) (owedAfter c 124) W
      ∗ (∀ r, (((slot 1 10).view.loc (c : Thread nD τ) ↦[(slot 1 10).view.set]{fullShare} (slot 1 10).view.rep (sent m (bwd c 10) c 1))
        ∗ (cellInv ER (sched m) (K (dmaCell c rsR 1 10)) (dmaCell c rsR 1 10) ∗ atPos ER (dmaCell c rsR 1 10) 1 ∅ 0)
        ∗ ((slot 1 11).view.loc (c : Thread nD τ) ↦[(slot 1 11).view.set]{fullShare} (slot 1 11).view.rep (sent m (bwd c 11) c 1))
        ∗ (cellInv ER (sched m) (K (dmaCell c rsR 1 11)) (dmaCell c rsR 1 11) ∗ atPos ER (dmaCell c rsR 1 11) 1 ∅ 0)
        ∗ owes (c : Thread nD τ) (owedAfter c 124) (insert (SemLoc.dma (semAt (arr rsR) 1 11), ()) (insert (SemLoc.dma (semAt (arr rsR) 1 10), ()) (W)))) -∗ Q r))
      ⊢ wp frame (wpE (defs₀ (F := F)) 𝒱₀ c none) Set.univ (k0_part68 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR1_10, ArsR1_10, CrsR1_10⟩, ⟨#IrsR1_11, ArsR1_11, CrsR1_11⟩, #Hlev, HO, Hk⟩
  have hmwrsR1_10 := mayWait_rsR1 (F := F) c 10
  have hmwrsR1_11 := mayWait_rsR1 (F := F) c 11
  sl_exec_parts
  sl_step
  iapply Hk
  isplitl [ArsR1_10_pay1]; · iexact ArsR1_10_pay1
  isplitl [ArsR1_10]; · (isplitr; · iexact IrsR1_10); iexact ArsR1_10
  isplitl [ArsR1_11_pay1]; · iexact ArsR1_11_pay1
  isplitl [ArsR1_11]; · (isplitr; · iexact IrsR1_11); iexact ArsR1_11
  iexact HO

attribute [local sl_rounds] duties_dma amount_dma expect_dma pay_rsR in
set_option maxHeartbeats 4000000 in
theorem part69_spec (c : Dev nD) (v2 : BitVec 32) (v1759 : BitVec 32) (W : Waits sig Unit) (Q : (BitVec 32) → sProp 𝕄) :
    iprop(recvRes m K rsR c 1 12
      ∗ recvRes m K rsR c 1 13
      ∗ levAts L lv
      ∗ owes (c : Thread nD τ) (owedAfter c 124) W
      ∗ (∀ r, (((slot 1 12).view.loc (c : Thread nD τ) ↦[(slot 1 12).view.set]{fullShare} (slot 1 12).view.rep (sent m (bwd c 12) c 1))
        ∗ (cellInv ER (sched m) (K (dmaCell c rsR 1 12)) (dmaCell c rsR 1 12) ∗ atPos ER (dmaCell c rsR 1 12) 1 ∅ 0)
        ∗ ((slot 1 13).view.loc (c : Thread nD τ) ↦[(slot 1 13).view.set]{fullShare} (slot 1 13).view.rep (sent m (bwd c 13) c 1))
        ∗ (cellInv ER (sched m) (K (dmaCell c rsR 1 13)) (dmaCell c rsR 1 13) ∗ atPos ER (dmaCell c rsR 1 13) 1 ∅ 0)
        ∗ owes (c : Thread nD τ) (owedAfter c 124) (insert (SemLoc.dma (semAt (arr rsR) 1 13), ()) (insert (SemLoc.dma (semAt (arr rsR) 1 12), ()) (W)))) -∗ Q r))
      ⊢ wp frame (wpE (defs₀ (F := F)) 𝒱₀ c none) Set.univ (k0_part69 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1759) Q := by
  unfold recvRes
  iintro ⟨⟨#IrsR1_12, ArsR1_12, CrsR1_12⟩, ⟨#IrsR1_13, ArsR1_13, CrsR1_13⟩, #Hlev, HO, Hk⟩
  have hmwrsR1_12 := mayWait_rsR1 (F := F) c 12
  have hmwrsR1_13 := mayWait_rsR1 (F := F) c 13
  sl_exec_parts
  sl_step
  iapply Hk
  isplitl [ArsR1_12_pay1]; · iexact ArsR1_12_pay1
  isplitl [ArsR1_12]; · (isplitr; · iexact IrsR1_12); iexact ArsR1_12
  isplitl [ArsR1_13_pay1]; · iexact ArsR1_13_pay1
  isplitl [ArsR1_13]; · (isplitr; · iexact IrsR1_13); iexact ArsR1_13
  iexact HO

attribute [local sl_rounds] duties_dma amount_dma expect_dma pay_rsR in
set_option maxHeartbeats 4000000 in
theorem part70_spec (c : Dev nD) (v2 : BitVec 32) (v1782 : BitVec 32) (W : Waits sig Unit) (Q : (BitVec 32) → sProp 𝕄) :
    iprop(recvRes m K rsR c 1 14
      ∗ recvRes m K rsR c 1 15
      ∗ levAts L lv
      ∗ owes (c : Thread nD τ) (owedAfter c 124) W
      ∗ (∀ r, (((slot 1 14).view.loc (c : Thread nD τ) ↦[(slot 1 14).view.set]{fullShare} (slot 1 14).view.rep (sent m (bwd c 14) c 1))
        ∗ (cellInv ER (sched m) (K (dmaCell c rsR 1 14)) (dmaCell c rsR 1 14) ∗ atPos ER (dmaCell c rsR 1 14) 1 ∅ 0)
        ∗ ((slot 1 15).view.loc (c : Thread nD τ) ↦[(slot 1 15).view.set]{fullShare} (slot 1 15).view.rep (sent m (bwd c 15) c 1))
        ∗ (cellInv ER (sched m) (K (dmaCell c rsR 1 15)) (dmaCell c rsR 1 15) ∗ atPos ER (dmaCell c rsR 1 15) 1 ∅ 0)
        ∗ owes (c : Thread nD τ) (owedAfter c 124) (insert (SemLoc.dma (semAt (arr rsR) 1 15), ()) (insert (SemLoc.dma (semAt (arr rsR) 1 14), ()) (W)))) -∗ Q r))
      ⊢ wp frame (wpE (defs₀ (F := F)) 𝒱₀ c none) Set.univ (k0_part70 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1782) Q := by
  unfold recvRes
  iintro ⟨⟨#IrsR1_14, ArsR1_14, CrsR1_14⟩, ⟨#IrsR1_15, ArsR1_15, CrsR1_15⟩, #Hlev, HO, Hk⟩
  have hmwrsR1_14 := mayWait_rsR1 (F := F) c 14
  have hmwrsR1_15 := mayWait_rsR1 (F := F) c 15
  sl_exec_parts
  sl_step
  iapply Hk
  isplitl [ArsR1_14_pay1]; · iexact ArsR1_14_pay1
  isplitl [ArsR1_14]; · (isplitr; · iexact IrsR1_14); iexact ArsR1_14
  isplitl [ArsR1_15_pay1]; · iexact ArsR1_15_pay1
  isplitl [ArsR1_15]; · (isplitr; · iexact IrsR1_15); iexact ArsR1_15
  iexact HO

attribute [local sl_rounds] duties_dma amount_dma expect_dma pay_rsR in
set_option maxHeartbeats 4000000 in
theorem part71_spec (c : Dev nD) (v2 : BitVec 32) (v1805 : BitVec 32) (W : Waits sig Unit) (Q : (BitVec 32) → sProp 𝕄) :
    iprop(recvRes m K rsR c 1 16
      ∗ recvRes m K rsR c 1 17
      ∗ levAts L lv
      ∗ owes (c : Thread nD τ) (owedAfter c 124) W
      ∗ (∀ r, (((slot 1 16).view.loc (c : Thread nD τ) ↦[(slot 1 16).view.set]{fullShare} (slot 1 16).view.rep (sent m (bwd c 16) c 1))
        ∗ (cellInv ER (sched m) (K (dmaCell c rsR 1 16)) (dmaCell c rsR 1 16) ∗ atPos ER (dmaCell c rsR 1 16) 1 ∅ 0)
        ∗ ((slot 1 17).view.loc (c : Thread nD τ) ↦[(slot 1 17).view.set]{fullShare} (slot 1 17).view.rep (sent m (bwd c 17) c 1))
        ∗ (cellInv ER (sched m) (K (dmaCell c rsR 1 17)) (dmaCell c rsR 1 17) ∗ atPos ER (dmaCell c rsR 1 17) 1 ∅ 0)
        ∗ owes (c : Thread nD τ) (owedAfter c 124) (insert (SemLoc.dma (semAt (arr rsR) 1 17), ()) (insert (SemLoc.dma (semAt (arr rsR) 1 16), ()) (W)))) -∗ Q r))
      ⊢ wp frame (wpE (defs₀ (F := F)) 𝒱₀ c none) Set.univ (k0_part71 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1805) Q := by
  unfold recvRes
  iintro ⟨⟨#IrsR1_16, ArsR1_16, CrsR1_16⟩, ⟨#IrsR1_17, ArsR1_17, CrsR1_17⟩, #Hlev, HO, Hk⟩
  have hmwrsR1_16 := mayWait_rsR1 (F := F) c 16
  have hmwrsR1_17 := mayWait_rsR1 (F := F) c 17
  sl_exec_parts
  sl_step
  iapply Hk
  isplitl [ArsR1_16_pay1]; · iexact ArsR1_16_pay1
  isplitl [ArsR1_16]; · (isplitr; · iexact IrsR1_16); iexact ArsR1_16
  isplitl [ArsR1_17_pay1]; · iexact ArsR1_17_pay1
  isplitl [ArsR1_17]; · (isplitr; · iexact IrsR1_17); iexact ArsR1_17
  iexact HO

attribute [local sl_rounds] duties_dma amount_dma expect_dma pay_rsR in
set_option maxHeartbeats 4000000 in
theorem part72_spec (c : Dev nD) (v2 : BitVec 32) (v1827 : BitVec 32) (W : Waits sig Unit) (Q : (BitVec 32) → sProp 𝕄) :
    iprop(recvRes m K rsR c 1 18
      ∗ recvRes m K rsR c 1 19
      ∗ levAts L lv
      ∗ owes (c : Thread nD τ) (owedAfter c 124) W
      ∗ (∀ r, (((slot 1 18).view.loc (c : Thread nD τ) ↦[(slot 1 18).view.set]{fullShare} (slot 1 18).view.rep (sent m (bwd c 18) c 1))
        ∗ (cellInv ER (sched m) (K (dmaCell c rsR 1 18)) (dmaCell c rsR 1 18) ∗ atPos ER (dmaCell c rsR 1 18) 1 ∅ 0)
        ∗ ((slot 1 19).view.loc (c : Thread nD τ) ↦[(slot 1 19).view.set]{fullShare} (slot 1 19).view.rep (sent m (bwd c 19) c 1))
        ∗ (cellInv ER (sched m) (K (dmaCell c rsR 1 19)) (dmaCell c rsR 1 19) ∗ atPos ER (dmaCell c rsR 1 19) 1 ∅ 0)
        ∗ owes (c : Thread nD τ) (owedAfter c 124) (insert (SemLoc.dma (semAt (arr rsR) 1 19), ()) (insert (SemLoc.dma (semAt (arr rsR) 1 18), ()) (W)))) -∗ Q r))
      ⊢ wp frame (wpE (defs₀ (F := F)) 𝒱₀ c none) Set.univ (k0_part72 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1827) Q := by
  unfold recvRes
  iintro ⟨⟨#IrsR1_18, ArsR1_18, CrsR1_18⟩, ⟨#IrsR1_19, ArsR1_19, CrsR1_19⟩, #Hlev, HO, Hk⟩
  have hmwrsR1_18 := mayWait_rsR1 (F := F) c 18
  have hmwrsR1_19 := mayWait_rsR1 (F := F) c 19
  sl_exec_parts
  sl_step
  iapply Hk
  isplitl [ArsR1_18_pay1]; · iexact ArsR1_18_pay1
  isplitl [ArsR1_18]; · (isplitr; · iexact IrsR1_18); iexact ArsR1_18
  isplitl [ArsR1_19_pay1]; · iexact ArsR1_19_pay1
  isplitl [ArsR1_19]; · (isplitr; · iexact IrsR1_19); iexact ArsR1_19
  iexact HO

attribute [local sl_rounds] duties_dma amount_dma expect_dma pay_rsR in
set_option maxHeartbeats 4000000 in
theorem part73_spec (c : Dev nD) (v2 : BitVec 32) (v1849 : BitVec 32) (W : Waits sig Unit) (Q : (BitVec 32) → sProp 𝕄) :
    iprop(recvRes m K rsR c 1 20
      ∗ recvRes m K rsR c 1 21
      ∗ levAts L lv
      ∗ owes (c : Thread nD τ) (owedAfter c 124) W
      ∗ (∀ r, (((slot 1 20).view.loc (c : Thread nD τ) ↦[(slot 1 20).view.set]{fullShare} (slot 1 20).view.rep (sent m (bwd c 20) c 1))
        ∗ (cellInv ER (sched m) (K (dmaCell c rsR 1 20)) (dmaCell c rsR 1 20) ∗ atPos ER (dmaCell c rsR 1 20) 1 ∅ 0)
        ∗ ((slot 1 21).view.loc (c : Thread nD τ) ↦[(slot 1 21).view.set]{fullShare} (slot 1 21).view.rep (sent m (bwd c 21) c 1))
        ∗ (cellInv ER (sched m) (K (dmaCell c rsR 1 21)) (dmaCell c rsR 1 21) ∗ atPos ER (dmaCell c rsR 1 21) 1 ∅ 0)
        ∗ owes (c : Thread nD τ) (owedAfter c 124) (insert (SemLoc.dma (semAt (arr rsR) 1 21), ()) (insert (SemLoc.dma (semAt (arr rsR) 1 20), ()) (W)))) -∗ Q r))
      ⊢ wp frame (wpE (defs₀ (F := F)) 𝒱₀ c none) Set.univ (k0_part73 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1849) Q := by
  unfold recvRes
  iintro ⟨⟨#IrsR1_20, ArsR1_20, CrsR1_20⟩, ⟨#IrsR1_21, ArsR1_21, CrsR1_21⟩, #Hlev, HO, Hk⟩
  have hmwrsR1_20 := mayWait_rsR1 (F := F) c 20
  have hmwrsR1_21 := mayWait_rsR1 (F := F) c 21
  sl_exec_parts
  sl_step
  iapply Hk
  isplitl [ArsR1_20_pay1]; · iexact ArsR1_20_pay1
  isplitl [ArsR1_20]; · (isplitr; · iexact IrsR1_20); iexact ArsR1_20
  isplitl [ArsR1_21_pay1]; · iexact ArsR1_21_pay1
  isplitl [ArsR1_21]; · (isplitr; · iexact IrsR1_21); iexact ArsR1_21
  iexact HO

attribute [local sl_rounds] duties_dma amount_dma expect_dma pay_rsR in
set_option maxHeartbeats 4000000 in
theorem part74_spec (c : Dev nD) (v2 : BitVec 32) (v1871 : BitVec 32) (W : Waits sig Unit) (Q : (BitVec 32) → sProp 𝕄) :
    iprop(recvRes m K rsR c 1 22
      ∗ recvRes m K rsR c 1 23
      ∗ levAts L lv
      ∗ owes (c : Thread nD τ) (owedAfter c 124) W
      ∗ (∀ r, (((slot 1 22).view.loc (c : Thread nD τ) ↦[(slot 1 22).view.set]{fullShare} (slot 1 22).view.rep (sent m (bwd c 22) c 1))
        ∗ (cellInv ER (sched m) (K (dmaCell c rsR 1 22)) (dmaCell c rsR 1 22) ∗ atPos ER (dmaCell c rsR 1 22) 1 ∅ 0)
        ∗ ((slot 1 23).view.loc (c : Thread nD τ) ↦[(slot 1 23).view.set]{fullShare} (slot 1 23).view.rep (sent m (bwd c 23) c 1))
        ∗ (cellInv ER (sched m) (K (dmaCell c rsR 1 23)) (dmaCell c rsR 1 23) ∗ atPos ER (dmaCell c rsR 1 23) 1 ∅ 0)
        ∗ owes (c : Thread nD τ) (owedAfter c 124) (insert (SemLoc.dma (semAt (arr rsR) 1 23), ()) (insert (SemLoc.dma (semAt (arr rsR) 1 22), ()) (W)))) -∗ Q r))
      ⊢ wp frame (wpE (defs₀ (F := F)) 𝒱₀ c none) Set.univ (k0_part74 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1871) Q := by
  unfold recvRes
  iintro ⟨⟨#IrsR1_22, ArsR1_22, CrsR1_22⟩, ⟨#IrsR1_23, ArsR1_23, CrsR1_23⟩, #Hlev, HO, Hk⟩
  have hmwrsR1_22 := mayWait_rsR1 (F := F) c 22
  have hmwrsR1_23 := mayWait_rsR1 (F := F) c 23
  sl_exec_parts
  sl_step
  iapply Hk
  isplitl [ArsR1_22_pay1]; · iexact ArsR1_22_pay1
  isplitl [ArsR1_22]; · (isplitr; · iexact IrsR1_22); iexact ArsR1_22
  isplitl [ArsR1_23_pay1]; · iexact ArsR1_23_pay1
  isplitl [ArsR1_23]; · (isplitr; · iexact IrsR1_23); iexact ArsR1_23
  iexact HO

attribute [local sl_rounds] duties_dma amount_dma expect_dma pay_rsR in
set_option maxHeartbeats 4000000 in
theorem part75_spec (c : Dev nD) (v2 : BitVec 32) (v1893 : BitVec 32) (W : Waits sig Unit) (Q : (BitVec 32) → sProp 𝕄) :
    iprop(recvRes m K rsR c 1 24
      ∗ recvRes m K rsR c 1 25
      ∗ levAts L lv
      ∗ owes (c : Thread nD τ) (owedAfter c 124) W
      ∗ (∀ r, (((slot 1 24).view.loc (c : Thread nD τ) ↦[(slot 1 24).view.set]{fullShare} (slot 1 24).view.rep (sent m (bwd c 24) c 1))
        ∗ (cellInv ER (sched m) (K (dmaCell c rsR 1 24)) (dmaCell c rsR 1 24) ∗ atPos ER (dmaCell c rsR 1 24) 1 ∅ 0)
        ∗ ((slot 1 25).view.loc (c : Thread nD τ) ↦[(slot 1 25).view.set]{fullShare} (slot 1 25).view.rep (sent m (bwd c 25) c 1))
        ∗ (cellInv ER (sched m) (K (dmaCell c rsR 1 25)) (dmaCell c rsR 1 25) ∗ atPos ER (dmaCell c rsR 1 25) 1 ∅ 0)
        ∗ owes (c : Thread nD τ) (owedAfter c 124) (insert (SemLoc.dma (semAt (arr rsR) 1 25), ()) (insert (SemLoc.dma (semAt (arr rsR) 1 24), ()) (W)))) -∗ Q r))
      ⊢ wp frame (wpE (defs₀ (F := F)) 𝒱₀ c none) Set.univ (k0_part75 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1893) Q := by
  unfold recvRes
  iintro ⟨⟨#IrsR1_24, ArsR1_24, CrsR1_24⟩, ⟨#IrsR1_25, ArsR1_25, CrsR1_25⟩, #Hlev, HO, Hk⟩
  have hmwrsR1_24 := mayWait_rsR1 (F := F) c 24
  have hmwrsR1_25 := mayWait_rsR1 (F := F) c 25
  sl_exec_parts
  sl_step
  iapply Hk
  isplitl [ArsR1_24_pay1]; · iexact ArsR1_24_pay1
  isplitl [ArsR1_24]; · (isplitr; · iexact IrsR1_24); iexact ArsR1_24
  isplitl [ArsR1_25_pay1]; · iexact ArsR1_25_pay1
  isplitl [ArsR1_25]; · (isplitr; · iexact IrsR1_25); iexact ArsR1_25
  iexact HO

attribute [local sl_rounds] duties_dma amount_dma expect_dma pay_rsR in
set_option maxHeartbeats 4000000 in
theorem part76_spec (c : Dev nD) (v2 : BitVec 32) (v1916 : BitVec 32) (W : Waits sig Unit) (Q : (PUnit) → sProp 𝕄) :
    iprop(recvRes m K rsR c 1 26
      ∗ recvRes m K rsR c 1 27
      ∗ levAts L lv
      ∗ owes (c : Thread nD τ) (owedAfter c 124) W
      ∗ (∀ r, (((slot 1 26).view.loc (c : Thread nD τ) ↦[(slot 1 26).view.set]{fullShare} (slot 1 26).view.rep (sent m (bwd c 26) c 1))
        ∗ (cellInv ER (sched m) (K (dmaCell c rsR 1 26)) (dmaCell c rsR 1 26) ∗ atPos ER (dmaCell c rsR 1 26) 1 ∅ 0)
        ∗ ((slot 1 27).view.loc (c : Thread nD τ) ↦[(slot 1 27).view.set]{fullShare} (slot 1 27).view.rep (sent m (bwd c 27) c 1))
        ∗ (cellInv ER (sched m) (K (dmaCell c rsR 1 27)) (dmaCell c rsR 1 27) ∗ atPos ER (dmaCell c rsR 1 27) 1 ∅ 0)
        ∗ owes (c : Thread nD τ) (owedAfter c 124) (insert (SemLoc.dma (semAt (arr rsR) 1 27), ()) (insert (SemLoc.dma (semAt (arr rsR) 1 26), ()) (W)))) -∗ Q r))
      ⊢ wp frame (wpE (defs₀ (F := F)) 𝒱₀ c none) Set.univ (k0_part76 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1916) Q := by
  unfold recvRes
  iintro ⟨⟨#IrsR1_26, ArsR1_26, CrsR1_26⟩, ⟨#IrsR1_27, ArsR1_27, CrsR1_27⟩, #Hlev, HO, Hk⟩
  have hmwrsR1_26 := mayWait_rsR1 (F := F) c 26
  have hmwrsR1_27 := mayWait_rsR1 (F := F) c 27
  sl_exec_parts
  sl_step
  iapply Hk
  isplitl [ArsR1_26_pay1]; · iexact ArsR1_26_pay1
  isplitl [ArsR1_26]; · (isplitr; · iexact IrsR1_26); iexact ArsR1_26
  isplitl [ArsR1_27_pay1]; · iexact ArsR1_27_pay1
  isplitl [ArsR1_27]; · (isplitr; · iexact IrsR1_27); iexact ArsR1_27
  iexact HO

attribute [local sl_rounds] duties_dma amount_dma expect_dma pay_rsR in
set_option maxHeartbeats 4000000 in
theorem part77_spec (c : Dev nD) (v2 : BitVec 32) (W : Waits sig Unit) (Q : (PUnit) → sProp 𝕄) :
    iprop(recvRes m K rsR c 1 28
      ∗ recvRes m K rsR c 1 29
      ∗ levAts L lv
      ∗ owes (c : Thread nD τ) (owedAfter c 124) W
      ∗ (∀ r, (((slot 1 28).view.loc (c : Thread nD τ) ↦[(slot 1 28).view.set]{fullShare} (slot 1 28).view.rep (sent m (bwd c 28) c 1))
        ∗ (cellInv ER (sched m) (K (dmaCell c rsR 1 28)) (dmaCell c rsR 1 28) ∗ atPos ER (dmaCell c rsR 1 28) 1 ∅ 0)
        ∗ ((slot 1 29).view.loc (c : Thread nD τ) ↦[(slot 1 29).view.set]{fullShare} (slot 1 29).view.rep (sent m (bwd c 29) c 1))
        ∗ (cellInv ER (sched m) (K (dmaCell c rsR 1 29)) (dmaCell c rsR 1 29) ∗ atPos ER (dmaCell c rsR 1 29) 1 ∅ 0)
        ∗ owes (c : Thread nD τ) (owedAfter c 124) (insert (SemLoc.dma (semAt (arr rsR) 1 29), ()) (insert (SemLoc.dma (semAt (arr rsR) 1 28), ()) (W)))) -∗ Q r))
      ⊢ wp frame (wpE (defs₀ (F := F)) 𝒱₀ c none) Set.univ (k0_part77 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR1_28, ArsR1_28, CrsR1_28⟩, ⟨#IrsR1_29, ArsR1_29, CrsR1_29⟩, #Hlev, HO, Hk⟩
  have hmwrsR1_28 := mayWait_rsR1 (F := F) c 28
  have hmwrsR1_29 := mayWait_rsR1 (F := F) c 29
  sl_exec_parts
  sl_step
  iapply Hk
  isplitl [ArsR1_28_pay1]; · iexact ArsR1_28_pay1
  isplitl [ArsR1_28]; · (isplitr; · iexact IrsR1_28); iexact ArsR1_28
  isplitl [ArsR1_29_pay1]; · iexact ArsR1_29_pay1
  isplitl [ArsR1_29]; · (isplitr; · iexact IrsR1_29); iexact ArsR1_29
  iexact HO

end Cert.KernelIdeal.AllReduce

end
-- ==== Proof.BodyWaitsC.lean ====
/-
  The send waits of the reduce phase: each hands back the rows of the partial product that one copy read.
  One statement per printed part of the kernel body, over the resources that part touches and nothing else.
-/
import proofs.«900438_g7700000000000439_dist_gemm_ar_m1024_k1024_n1024_f32_gelu_v7x_i32_1_alg».proof.Proof.BodyTables
noncomputable section
namespace Cert.KernelIdeal.AllReduce
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_rsS in
set_option maxHeartbeats 4000000 in
theorem part93_spec (c : Dev nD)  (W : Waits sig Unit) (Q : (PUnit) → sProp 𝕄) :
    iprop(recvRes m K rsS c 0 4
      ∗ recvRes m K rsS c 0 5
      ∗ recvRes m K rsS c 0 6
      ∗ recvRes m K rsS c 0 7
      ∗ levAts L lv
      ∗ owes (c : Thread nD τ) (owedAfter c 155) W
      ∗ (∀ r, (((chunk accM (fwd c 4) 0).view.loc (c : Thread nD τ) ↦[(chunk accM (fwd c 4) 0).view.set]{fullShare} (chunk accM (fwd c 4) 0).view.rep (sent m c (fwd c 4) 0))
        ∗ (cellInv ER (sched m) (K (dmaCell c rsS 0 4)) (dmaCell c rsS 0 4) ∗ atPos ER (dmaCell c rsS 0 4) 1 ∅ 0)
        ∗ ((chunk accM (fwd c 5) 0).view.loc (c : Thread nD τ) ↦[(chunk accM (fwd c 5) 0).view.set]{fullShare} (chunk accM (fwd c 5) 0).view.rep (sent m c (fwd c 5) 0))
        ∗ (cellInv ER (sched m) (K (dmaCell c rsS 0 5)) (dmaCell c rsS 0 5) ∗ atPos ER (dmaCell c rsS 0 5) 1 ∅ 0)
        ∗ ((chunk accM (fwd c 6) 0).view.loc (c : Thread nD τ) ↦[(chunk accM (fwd c 6) 0).view.set]{fullShare} (chunk accM (fwd c 6) 0).view.rep (sent m c (fwd c 6) 0))
        ∗ (cellInv ER (sched m) (K (dmaCell c rsS 0 6)) (dmaCell c rsS 0 6) ∗ atPos ER (dmaCell c rsS 0 6) 1 ∅ 0)
        ∗ ((chunk accM (fwd c 7) 0).view.loc (c : Thread nD τ) ↦[(chunk accM (fwd c 7) 0).view.set]{fullShare} (chunk accM (fwd c 7) 0).view.rep (sent m c (fwd c 7) 0))
        ∗ (cellInv ER (sched m) (K (dmaCell c rsS 0 7)) (dmaCell c rsS 0 7) ∗ atPos ER (dmaCell c rsS 0 7) 1 ∅ 0)
        ∗ owes (c : Thread nD τ) (owedAfter c 155) (insert (SemLoc.dma (semAt (arr rsS) 0 7), ()) (insert (SemLoc.dma (semAt (arr rsS) 0 6), ()) (insert (SemLoc.dma (semAt (arr rsS) 0 5), ()) (insert (SemLoc.dma (semAt (arr rsS) 0 4), ()) (W)))))) -∗ Q r))
      ⊢ wp frame (wpE (defs₀ (F := F)) 𝒱₀ c none) Set.univ (k0_part93 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS0_4, ArsS0_4, CrsS0_4⟩, ⟨#IrsS0_5, ArsS0_5, CrsS0_5⟩, ⟨#IrsS0_6, ArsS0_6, CrsS0_6⟩, ⟨#IrsS0_7, ArsS0_7, CrsS0_7⟩, #Hlev, HO, Hk⟩
  have hmwrsS0_4 := mayWait_end (F := F) c (.dma (semAt (arr rsS) 0 4))
  have hmwrsS0_5 := mayWait_end (F := F) c (.dma (semAt (arr rsS) 0 5))
  have hmwrsS0_6 := mayWait_end (F := F) c (.dma (semAt (arr rsS) 0 6))
  have hmwrsS0_7 := mayWait_end (F := F) c (.dma (semAt (arr rsS) 0 7))
  sl_exec_parts
  sl_step
  iapply Hk
  isplitl [ArsS0_4_pay1]; · iexact ArsS0_4_pay1
  isplitl [ArsS0_4]; · (isplitr; · iexact IrsS0_4); iexact ArsS0_4
  isplitl [ArsS0_5_pay1]; · iexact ArsS0_5_pay1
  isplitl [ArsS0_5]; · (isplitr; · iexact IrsS0_5); iexact ArsS0_5
  isplitl [ArsS0_6_pay1]; · iexact ArsS0_6_pay1
  isplitl [ArsS0_6]; · (isplitr; · iexact IrsS0_6); iexact ArsS0_6
  isplitl [ArsS0_7_pay1]; · iexact ArsS0_7_pay1
  isplitl [ArsS0_7]; · (isplitr; · iexact IrsS0_7); iexact ArsS0_7
  iexact HO

attribute [local sl_rounds] duties_dma amount_dma expect_dma pay_rsS in
set_option maxHeartbeats 4000000 in
theorem part94_spec (c : Dev nD)  (W : Waits sig Unit) (Q : (PUnit) → sProp 𝕄) :
    iprop(recvRes m K rsS c 0 8
      ∗ recvRes m K rsS c 0 9
      ∗ recvRes m K rsS c 0 10
      ∗ levAts L lv
      ∗ owes (c : Thread nD τ) (owedAfter c 155) W
      ∗ (∀ r, (((chunk accM (fwd c 8) 0).view.loc (c : Thread nD τ) ↦[(chunk accM (fwd c 8) 0).view.set]{fullShare} (chunk accM (fwd c 8) 0).view.rep (sent m c (fwd c 8) 0))
        ∗ (cellInv ER (sched m) (K (dmaCell c rsS 0 8)) (dmaCell c rsS 0 8) ∗ atPos ER (dmaCell c rsS 0 8) 1 ∅ 0)
        ∗ ((chunk accM (fwd c 9) 0).view.loc (c : Thread nD τ) ↦[(chunk accM (fwd c 9) 0).view.set]{fullShare} (chunk accM (fwd c 9) 0).view.rep (sent m c (fwd c 9) 0))
        ∗ (cellInv ER (sched m) (K (dmaCell c rsS 0 9)) (dmaCell c rsS 0 9) ∗ atPos ER (dmaCell c rsS 0 9) 1 ∅ 0)
        ∗ ((chunk accM (fwd c 10) 0).view.loc (c : Thread nD τ) ↦[(chunk accM (fwd c 10) 0).view.set]{fullShare} (chunk accM (fwd c 10) 0).view.rep (sent m c (fwd c 10) 0))
        ∗ (cellInv ER (sched m) (K (dmaCell c rsS 0 10)) (dmaCell c rsS 0 10) ∗ atPos ER (dmaCell c rsS 0 10) 1 ∅ 0)
        ∗ owes (c : Thread nD τ) (owedAfter c 155) (insert (SemLoc.dma (semAt (arr rsS) 0 10), ()) (insert (SemLoc.dma (semAt (arr rsS) 0 9), ()) (insert (SemLoc.dma (semAt (arr rsS) 0 8), ()) (W))))) -∗ Q r))
      ⊢ wp frame (wpE (defs₀ (F := F)) 𝒱₀ c none) Set.univ (k0_part94 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS0_8, ArsS0_8, CrsS0_8⟩, ⟨#IrsS0_9, ArsS0_9, CrsS0_9⟩, ⟨#IrsS0_10, ArsS0_10, CrsS0_10⟩, #Hlev, HO, Hk⟩
  have hmwrsS0_8 := mayWait_end (F := F) c (.dma (semAt (arr rsS) 0 8))
  have hmwrsS0_9 := mayWait_end (F := F) c (.dma (semAt (arr rsS) 0 9))
  have hmwrsS0_10 := mayWait_end (F := F) c (.dma (semAt (arr rsS) 0 10))
  sl_exec_parts
  sl_step
  iapply Hk
  isplitl [ArsS0_8_pay1]; · iexact ArsS0_8_pay1
  isplitl [ArsS0_8]; · (isplitr; · iexact IrsS0_8); iexact ArsS0_8
  isplitl [ArsS0_9_pay1]; · iexact ArsS0_9_pay1
  isplitl [ArsS0_9]; · (isplitr; · iexact IrsS0_9); iexact ArsS0_9
  isplitl [ArsS0_10_pay1]; · iexact ArsS0_10_pay1
  isplitl [ArsS0_10]; · (isplitr; · iexact IrsS0_10); iexact ArsS0_10
  iexact HO

attribute [local sl_rounds] duties_dma amount_dma expect_dma pay_rsS in
set_option maxHeartbeats 4000000 in
theorem part95_spec (c : Dev nD)  (W : Waits sig Unit) (Q : (PUnit) → sProp 𝕄) :
    iprop(recvRes m K rsS c 0 11
      ∗ recvRes m K rsS c 0 12
      ∗ recvRes m K rsS c 0 13
      ∗ recvRes m K rsS c 0 14
      ∗ levAts L lv
      ∗ owes (c : Thread nD τ) (owedAfter c 155) W
      ∗ (∀ r, (((chunk accM (fwd c 11) 0).view.loc (c : Thread nD τ) ↦[(chunk accM (fwd c 11) 0).view.set]{fullShare} (chunk accM (fwd c 11) 0).view.rep (sent m c (fwd c 11) 0))
        ∗ (cellInv ER (sched m) (K (dmaCell c rsS 0 11)) (dmaCell c rsS 0 11) ∗ atPos ER (dmaCell c rsS 0 11) 1 ∅ 0)
        ∗ ((chunk accM (fwd c 12) 0).view.loc (c : Thread nD τ) ↦[(chunk accM (fwd c 12) 0).view.set]{fullShare} (chunk accM (fwd c 12) 0).view.rep (sent m c (fwd c 12) 0))
        ∗ (cellInv ER (sched m) (K (dmaCell c rsS 0 12)) (dmaCell c rsS 0 12) ∗ atPos ER (dmaCell c rsS 0 12) 1 ∅ 0)
        ∗ ((chunk accM (fwd c 13) 0).view.loc (c : Thread nD τ) ↦[(chunk accM (fwd c 13) 0).view.set]{fullShare} (chunk accM (fwd c 13) 0).view.rep (sent m c (fwd c 13) 0))
        ∗ (cellInv ER (sched m) (K (dmaCell c rsS 0 13)) (dmaCell c rsS 0 13) ∗ atPos ER (dmaCell c rsS 0 13) 1 ∅ 0)
        ∗ ((chunk accM (fwd c 14) 0).view.loc (c : Thread nD τ) ↦[(chunk accM (fwd c 14) 0).view.set]{fullShare} (chunk accM (fwd c 14) 0).view.rep (sent m c (fwd c 14) 0))
        ∗ (cellInv ER (sched m) (K (dmaCell c rsS 0 14)) (dmaCell c rsS 0 14) ∗ atPos ER (dmaCell c rsS 0 14) 1 ∅ 0)
        ∗ owes (c : Thread nD τ) (owedAfter c 155) (insert (SemLoc.dma (semAt (arr rsS) 0 14), ()) (insert (SemLoc.dma (semAt (arr rsS) 0 13), ()) (insert (SemLoc.dma (semAt (arr rsS) 0 12), ()) (insert (SemLoc.dma (semAt (arr rsS) 0 11), ()) (W)))))) -∗ Q r))
      ⊢ wp frame (wpE (defs₀ (F := F)) 𝒱₀ c none) Set.univ (k0_part95 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS0_11, ArsS0_11, CrsS0_11⟩, ⟨#IrsS0_12, ArsS0_12, CrsS0_12⟩, ⟨#IrsS0_13, ArsS0_13, CrsS0_13⟩, ⟨#IrsS0_14, ArsS0_14, CrsS0_14⟩, #Hlev, HO, Hk⟩
  have hmwrsS0_11 := mayWait_end (F := F) c (.dma (semAt (arr rsS) 0 11))
  have hmwrsS0_12 := mayWait_end (F := F) c (.dma (semAt (arr rsS) 0 12))
  have hmwrsS0_13 := mayWait_end (F := F) c (.dma (semAt (arr rsS) 0 13))
  have hmwrsS0_14 := mayWait_end (F := F) c (.dma (semAt (arr rsS) 0 14))
  sl_exec_parts
  sl_step
  iapply Hk
  isplitl [ArsS0_11_pay1]; · iexact ArsS0_11_pay1
  isplitl [ArsS0_11]; · (isplitr; · iexact IrsS0_11); iexact ArsS0_11
  isplitl [ArsS0_12_pay1]; · iexact ArsS0_12_pay1
  isplitl [ArsS0_12]; · (isplitr; · iexact IrsS0_12); iexact ArsS0_12
  isplitl [ArsS0_13_pay1]; · iexact ArsS0_13_pay1
  isplitl [ArsS0_13]; · (isplitr; · iexact IrsS0_13); iexact ArsS0_13
  isplitl [ArsS0_14_pay1]; · iexact ArsS0_14_pay1
  isplitl [ArsS0_14]; · (isplitr; · iexact IrsS0_14); iexact ArsS0_14
  iexact HO

attribute [local sl_rounds] duties_dma amount_dma expect_dma pay_rsS in
set_option maxHeartbeats 4000000 in
theorem part96_spec (c : Dev nD)  (W : Waits sig Unit) (Q : (PUnit) → sProp 𝕄) :
    iprop(recvRes m K rsS c 0 15
      ∗ recvRes m K rsS c 0 16
      ∗ recvRes m K rsS c 0 17
      ∗ recvRes m K rsS c 0 18
      ∗ levAts L lv
      ∗ owes (c : Thread nD τ) (owedAfter c 155) W
      ∗ (∀ r, (((chunk accM (fwd c 15) 0).view.loc (c : Thread nD τ) ↦[(chunk accM (fwd c 15) 0).view.set]{fullShare} (chunk accM (fwd c 15) 0).view.rep (sent m c (fwd c 15) 0))
        ∗ (cellInv ER (sched m) (K (dmaCell c rsS 0 15)) (dmaCell c rsS 0 15) ∗ atPos ER (dmaCell c rsS 0 15) 1 ∅ 0)
        ∗ ((chunk accM (fwd c 16) 0).view.loc (c : Thread nD τ) ↦[(chunk accM (fwd c 16) 0).view.set]{fullShare} (chunk accM (fwd c 16) 0).view.rep (sent m c (fwd c 16) 0))
        ∗ (cellInv ER (sched m) (K (dmaCell c rsS 0 16)) (dmaCell c rsS 0 16) ∗ atPos ER (dmaCell c rsS 0 16) 1 ∅ 0)
        ∗ ((chunk accM (fwd c 17) 0).view.loc (c : Thread nD τ) ↦[(chunk accM (fwd c 17) 0).view.set]{fullShare} (chunk accM (fwd c 17) 0).view.rep (sent m c (fwd c 17) 0))
        ∗ (cellInv ER (sched m) (K (dmaCell c rsS 0 17)) (dmaCell c rsS 0 17) ∗ atPos ER (dmaCell c rsS 0 17) 1 ∅ 0)
        ∗ ((chunk accM (fwd c 18) 0).view.loc (c : Thread nD τ) ↦[(chunk accM (fwd c 18) 0).view.set]{fullShare} (chunk accM (fwd c 18) 0).view.rep (sent m c (fwd c 18) 0))
        ∗ (cellInv ER (sched m) (K (dmaCell c rsS 0 18)) (dmaCell c rsS 0 18) ∗ atPos ER (dmaCell c rsS 0 18) 1 ∅ 0)
        ∗ owes (c : Thread nD τ) (owedAfter c 155) (insert (SemLoc.dma (semAt (arr rsS) 0 18), ()) (insert (SemLoc.dma (semAt (arr rsS) 0 17), ()) (insert (SemLoc.dma (semAt (arr rsS) 0 16), ()) (insert (SemLoc.dma (semAt (arr rsS) 0 15), ()) (W)))))) -∗ Q r))
      ⊢ wp frame (wpE (defs₀ (F := F)) 𝒱₀ c none) Set.univ (k0_part96 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS0_15, ArsS0_15, CrsS0_15⟩, ⟨#IrsS0_16, ArsS0_16, CrsS0_16⟩, ⟨#IrsS0_17, ArsS0_17, CrsS0_17⟩, ⟨#IrsS0_18, ArsS0_18, CrsS0_18⟩, #Hlev, HO, Hk⟩
  have hmwrsS0_15 := mayWait_end (F := F) c (.dma (semAt (arr rsS) 0 15))
  have hmwrsS0_16 := mayWait_end (F := F) c (.dma (semAt (arr rsS) 0 16))
  have hmwrsS0_17 := mayWait_end (F := F) c (.dma (semAt (arr rsS) 0 17))
  have hmwrsS0_18 := mayWait_end (F := F) c (.dma (semAt (arr rsS) 0 18))
  sl_exec_parts
  sl_step
  iapply Hk
  isplitl [ArsS0_15_pay1]; · iexact ArsS0_15_pay1
  isplitl [ArsS0_15]; · (isplitr; · iexact IrsS0_15); iexact ArsS0_15
  isplitl [ArsS0_16_pay1]; · iexact ArsS0_16_pay1
  isplitl [ArsS0_16]; · (isplitr; · iexact IrsS0_16); iexact ArsS0_16
  isplitl [ArsS0_17_pay1]; · iexact ArsS0_17_pay1
  isplitl [ArsS0_17]; · (isplitr; · iexact IrsS0_17); iexact ArsS0_17
  isplitl [ArsS0_18_pay1]; · iexact ArsS0_18_pay1
  isplitl [ArsS0_18]; · (isplitr; · iexact IrsS0_18); iexact ArsS0_18
  iexact HO

attribute [local sl_rounds] duties_dma amount_dma expect_dma pay_rsS in
set_option maxHeartbeats 4000000 in
theorem part97_spec (c : Dev nD)  (W : Waits sig Unit) (Q : (PUnit) → sProp 𝕄) :
    iprop(recvRes m K rsS c 0 19
      ∗ recvRes m K rsS c 0 20
      ∗ recvRes m K rsS c 0 21
      ∗ recvRes m K rsS c 0 22
      ∗ levAts L lv
      ∗ owes (c : Thread nD τ) (owedAfter c 155) W
      ∗ (∀ r, (((chunk accM (fwd c 19) 0).view.loc (c : Thread nD τ) ↦[(chunk accM (fwd c 19) 0).view.set]{fullShare} (chunk accM (fwd c 19) 0).view.rep (sent m c (fwd c 19) 0))
        ∗ (cellInv ER (sched m) (K (dmaCell c rsS 0 19)) (dmaCell c rsS 0 19) ∗ atPos ER (dmaCell c rsS 0 19) 1 ∅ 0)
        ∗ ((chunk accM (fwd c 20) 0).view.loc (c : Thread nD τ) ↦[(chunk accM (fwd c 20) 0).view.set]{fullShare} (chunk accM (fwd c 20) 0).view.rep (sent m c (fwd c 20) 0))
        ∗ (cellInv ER (sched m) (K (dmaCell c rsS 0 20)) (dmaCell c rsS 0 20) ∗ atPos ER (dmaCell c rsS 0 20) 1 ∅ 0)
        ∗ ((chunk accM (fwd c 21) 0).view.loc (c : Thread nD τ) ↦[(chunk accM (fwd c 21) 0).view.set]{fullShare} (chunk accM (fwd c 21) 0).view.rep (sent m c (fwd c 21) 0))
        ∗ (cellInv ER (sched m) (K (dmaCell c rsS 0 21)) (dmaCell c rsS 0 21) ∗ atPos ER (dmaCell c rsS 0 21) 1 ∅ 0)
        ∗ ((chunk accM (fwd c 22) 0).view.loc (c : Thread nD τ) ↦[(chunk accM (fwd c 22) 0).view.set]{fullShare} (chunk accM (fwd c 22) 0).view.rep (sent m c (fwd c 22) 0))
        ∗ (cellInv ER (sched m) (K (dmaCell c rsS 0 22)) (dmaCell c rsS 0 22) ∗ atPos ER (dmaCell c rsS 0 22) 1 ∅ 0)
        ∗ owes (c : Thread nD τ) (owedAfter c 155) (insert (SemLoc.dma (semAt (arr rsS) 0 22), ()) (insert (SemLoc.dma (semAt (arr rsS) 0 21), ()) (insert (SemLoc.dma (semAt (arr rsS) 0 20), ()) (insert (SemLoc.dma (semAt (arr rsS) 0 19), ()) (W)))))) -∗ Q r))
      ⊢ wp frame (wpE (defs₀ (F := F)) 𝒱₀ c none) Set.univ (k0_part97 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS0_19, ArsS0_19, CrsS0_19⟩, ⟨#IrsS0_20, ArsS0_20, CrsS0_20⟩, ⟨#IrsS0_21, ArsS0_21, CrsS0_21⟩, ⟨#IrsS0_22, ArsS0_22, CrsS0_22⟩, #Hlev, HO, Hk⟩
  have hmwrsS0_19 := mayWait_end (F := F) c (.dma (semAt (arr rsS) 0 19))
  have hmwrsS0_20 := mayWait_end (F := F) c (.dma (semAt (arr rsS) 0 20))
  have hmwrsS0_21 := mayWait_end (F := F) c (.dma (semAt (arr rsS) 0 21))
  have hmwrsS0_22 := mayWait_end (F := F) c (.dma (semAt (arr rsS) 0 22))
  sl_exec_parts
  sl_step
  iapply Hk
  isplitl [ArsS0_19_pay1]; · iexact ArsS0_19_pay1
  isplitl [ArsS0_19]; · (isplitr; · iexact IrsS0_19); iexact ArsS0_19
  isplitl [ArsS0_20_pay1]; · iexact ArsS0_20_pay1
  isplitl [ArsS0_20]; · (isplitr; · iexact IrsS0_20); iexact ArsS0_20
  isplitl [ArsS0_21_pay1]; · iexact ArsS0_21_pay1
  isplitl [ArsS0_21]; · (isplitr; · iexact IrsS0_21); iexact ArsS0_21
  isplitl [ArsS0_22_pay1]; · iexact ArsS0_22_pay1
  isplitl [ArsS0_22]; · (isplitr; · iexact IrsS0_22); iexact ArsS0_22
  iexact HO

attribute [local sl_rounds] duties_dma amount_dma expect_dma pay_rsS in
set_option maxHeartbeats 4000000 in
theorem part98_spec (c : Dev nD)  (W : Waits sig Unit) (Q : (PUnit) → sProp 𝕄) :
    iprop(recvRes m K rsS c 0 23
      ∗ recvRes m K rsS c 0 24
      ∗ recvRes m K rsS c 0 25
      ∗ levAts L lv
      ∗ owes (c : Thread nD τ) (owedAfter c 155) W
      ∗ (∀ r, (((chunk accM (fwd c 23) 0).view.loc (c : Thread nD τ) ↦[(chunk accM (fwd c 23) 0).view.set]{fullShare} (chunk accM (fwd c 23) 0).view.rep (sent m c (fwd c 23) 0))
        ∗ (cellInv ER (sched m) (K (dmaCell c rsS 0 23)) (dmaCell c rsS 0 23) ∗ atPos ER (dmaCell c rsS 0 23) 1 ∅ 0)
        ∗ ((chunk accM (fwd c 24) 0).view.loc (c : Thread nD τ) ↦[(chunk accM (fwd c 24) 0).view.set]{fullShare} (chunk accM (fwd c 24) 0).view.rep (sent m c (fwd c 24) 0))
        ∗ (cellInv ER (sched m) (K (dmaCell c rsS 0 24)) (dmaCell c rsS 0 24) ∗ atPos ER (dmaCell c rsS 0 24) 1 ∅ 0)
        ∗ ((chunk accM (fwd c 25) 0).view.loc (c : Thread nD τ) ↦[(chunk accM (fwd c 25) 0).view.set]{fullShare} (chunk accM (fwd c 25) 0).view.rep (sent m c (fwd c 25) 0))
        ∗ (cellInv ER (sched m) (K (dmaCell c rsS 0 25)) (dmaCell c rsS 0 25) ∗ atPos ER (dmaCell c rsS 0 25) 1 ∅ 0)
        ∗ owes (c : Thread nD τ) (owedAfter c 155) (insert (SemLoc.dma (semAt (arr rsS) 0 25), ()) (insert (SemLoc.dma (semAt (arr rsS) 0 24), ()) (insert (SemLoc.dma (semAt (arr rsS) 0 23), ()) (W))))) -∗ Q r))
      ⊢ wp frame (wpE (defs₀ (F := F)) 𝒱₀ c none) Set.univ (k0_part98 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS0_23, ArsS0_23, CrsS0_23⟩, ⟨#IrsS0_24, ArsS0_24, CrsS0_24⟩, ⟨#IrsS0_25, ArsS0_25, CrsS0_25⟩, #Hlev, HO, Hk⟩
  have hmwrsS0_23 := mayWait_end (F := F) c (.dma (semAt (arr rsS) 0 23))
  have hmwrsS0_24 := mayWait_end (F := F) c (.dma (semAt (arr rsS) 0 24))
  have hmwrsS0_25 := mayWait_end (F := F) c (.dma (semAt (arr rsS) 0 25))
  sl_exec_parts
  sl_step
  iapply Hk
  isplitl [ArsS0_23_pay1]; · iexact ArsS0_23_pay1
  isplitl [ArsS0_23]; · (isplitr; · iexact IrsS0_23); iexact ArsS0_23
  isplitl [ArsS0_24_pay1]; · iexact ArsS0_24_pay1
  isplitl [ArsS0_24]; · (isplitr; · iexact IrsS0_24); iexact ArsS0_24
  isplitl [ArsS0_25_pay1]; · iexact ArsS0_25_pay1
  isplitl [ArsS0_25]; · (isplitr; · iexact IrsS0_25); iexact ArsS0_25
  iexact HO

attribute [local sl_rounds] duties_dma amount_dma expect_dma pay_rsS in
set_option maxHeartbeats 4000000 in
theorem part99_spec (c : Dev nD)  (W : Waits sig Unit) (Q : (PUnit) → sProp 𝕄) :
    iprop(recvRes m K rsS c 0 26
      ∗ recvRes m K rsS c 0 27
      ∗ recvRes m K rsS c 0 28
      ∗ recvRes m K rsS c 0 29
      ∗ levAts L lv
      ∗ owes (c : Thread nD τ) (owedAfter c 155) W
      ∗ (∀ r, (((chunk accM (fwd c 26) 0).view.loc (c : Thread nD τ) ↦[(chunk accM (fwd c 26) 0).view.set]{fullShare} (chunk accM (fwd c 26) 0).view.rep (sent m c (fwd c 26) 0))
        ∗ (cellInv ER (sched m) (K (dmaCell c rsS 0 26)) (dmaCell c rsS 0 26) ∗ atPos ER (dmaCell c rsS 0 26) 1 ∅ 0)
        ∗ ((chunk accM (fwd c 27) 0).view.loc (c : Thread nD τ) ↦[(chunk accM (fwd c 27) 0).view.set]{fullShare} (chunk accM (fwd c 27) 0).view.rep (sent m c (fwd c 27) 0))
        ∗ (cellInv ER (sched m) (K (dmaCell c rsS 0 27)) (dmaCell c rsS 0 27) ∗ atPos ER (dmaCell c rsS 0 27) 1 ∅ 0)
        ∗ ((chunk accM (fwd c 28) 0).view.loc (c : Thread nD τ) ↦[(chunk accM (fwd c 28) 0).view.set]{fullShare} (chunk accM (fwd c 28) 0).view.rep (sent m c (fwd c 28) 0))
        ∗ (cellInv ER (sched m) (K (dmaCell c rsS 0 28)) (dmaCell c rsS 0 28) ∗ atPos ER (dmaCell c rsS 0 28) 1 ∅ 0)
        ∗ ((chunk accM (fwd c 29) 0).view.loc (c : Thread nD τ) ↦[(chunk accM (fwd c 29) 0).view.set]{fullShare} (chunk accM (fwd c 29) 0).view.rep (sent m c (fwd c 29) 0))
        ∗ (cellInv ER (sched m) (K (dmaCell c rsS 0 29)) (dmaCell c rsS 0 29) ∗ atPos ER (dmaCell c rsS 0 29) 1 ∅ 0)
        ∗ owes (c : Thread nD τ) (owedAfter c 155) (insert (SemLoc.dma (semAt (arr rsS) 0 29), ()) (insert (SemLoc.dma (semAt (arr rsS) 0 28), ()) (insert (SemLoc.dma (semAt (arr rsS) 0 27), ()) (insert (SemLoc.dma (semAt (arr rsS) 0 26), ()) (W)))))) -∗ Q r))
      ⊢ wp frame (wpE (defs₀ (F := F)) 𝒱₀ c none) Set.univ (k0_part99 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS0_26, ArsS0_26, CrsS0_26⟩, ⟨#IrsS0_27, ArsS0_27, CrsS0_27⟩, ⟨#IrsS0_28, ArsS0_28, CrsS0_28⟩, ⟨#IrsS0_29, ArsS0_29, CrsS0_29⟩, #Hlev, HO, Hk⟩
  have hmwrsS0_26 := mayWait_end (F := F) c (.dma (semAt (arr rsS) 0 26))
  have hmwrsS0_27 := mayWait_end (F := F) c (.dma (semAt (arr rsS) 0 27))
  have hmwrsS0_28 := mayWait_end (F := F) c (.dma (semAt (arr rsS) 0 28))
  have hmwrsS0_29 := mayWait_end (F := F) c (.dma (semAt (arr rsS) 0 29))
  sl_exec_parts
  sl_step
  iapply Hk
  isplitl [ArsS0_26_pay1]; · iexact ArsS0_26_pay1
  isplitl [ArsS0_26]; · (isplitr; · iexact IrsS0_26); iexact ArsS0_26
  isplitl [ArsS0_27_pay1]; · iexact ArsS0_27_pay1
  isplitl [ArsS0_27]; · (isplitr; · iexact IrsS0_27); iexact ArsS0_27
  isplitl [ArsS0_28_pay1]; · iexact ArsS0_28_pay1
  isplitl [ArsS0_28]; · (isplitr; · iexact IrsS0_28); iexact ArsS0_28
  isplitl [ArsS0_29_pay1]; · iexact ArsS0_29_pay1
  isplitl [ArsS0_29]; · (isplitr; · iexact IrsS0_29); iexact ArsS0_29
  iexact HO

attribute [local sl_rounds] duties_dma amount_dma expect_dma pay_rsS in
set_option maxHeartbeats 4000000 in
theorem part100_spec (c : Dev nD)  (W : Waits sig Unit) (Q : (PUnit) → sProp 𝕄) :
    iprop(recvRes m K rsS c 0 30
      ∗ recvRes m K rsS c 0 31
      ∗ recvRes m K rsS c 1 1
      ∗ recvRes m K rsS c 1 2
      ∗ levAts L lv
      ∗ owes (c : Thread nD τ) (owedAfter c 155) W
      ∗ (∀ r, (((chunk accM (fwd c 30) 0).view.loc (c : Thread nD τ) ↦[(chunk accM (fwd c 30) 0).view.set]{fullShare} (chunk accM (fwd c 30) 0).view.rep (sent m c (fwd c 30) 0))
        ∗ (cellInv ER (sched m) (K (dmaCell c rsS 0 30)) (dmaCell c rsS 0 30) ∗ atPos ER (dmaCell c rsS 0 30) 1 ∅ 0)
        ∗ ((chunk accM (fwd c 31) 0).view.loc (c : Thread nD τ) ↦[(chunk accM (fwd c 31) 0).view.set]{fullShare} (chunk accM (fwd c 31) 0).view.rep (sent m c (fwd c 31) 0))
        ∗ (cellInv ER (sched m) (K (dmaCell c rsS 0 31)) (dmaCell c rsS 0 31) ∗ atPos ER (dmaCell c rsS 0 31) 1 ∅ 0)
        ∗ ((chunk accM (fwd c 1) 1).view.loc (c : Thread nD τ) ↦[(chunk accM (fwd c 1) 1).view.set]{fullShare} (chunk accM (fwd c 1) 1).view.rep (sent m c (fwd c 1) 1))
        ∗ (cellInv ER (sched m) (K (dmaCell c rsS 1 1)) (dmaCell c rsS 1 1) ∗ atPos ER (dmaCell c rsS 1 1) 1 ∅ 0)
        ∗ ((chunk accM (fwd c 2) 1).view.loc (c : Thread nD τ) ↦[(chunk accM (fwd c 2) 1).view.set]{fullShare} (chunk accM (fwd c 2) 1).view.rep (sent m c (fwd c 2) 1))
        ∗ (cellInv ER (sched m) (K (dmaCell c rsS 1 2)) (dmaCell c rsS 1 2) ∗ atPos ER (dmaCell c rsS 1 2) 1 ∅ 0)
        ∗ owes (c : Thread nD τ) (owedAfter c 155) (insert (SemLoc.dma (semAt (arr rsS) 1 2), ()) (insert (SemLoc.dma (semAt (arr rsS) 1 1), ()) (insert (SemLoc.dma (semAt (arr rsS) 0 31), ()) (insert (SemLoc.dma (semAt (arr rsS) 0 30), ()) (W)))))) -∗ Q r))
      ⊢ wp frame (wpE (defs₀ (F := F)) 𝒱₀ c none) Set.univ (k0_part100 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS0_30, ArsS0_30, CrsS0_30⟩, ⟨#IrsS0_31, ArsS0_31, CrsS0_31⟩, ⟨#IrsS1_1, ArsS1_1, CrsS1_1⟩, ⟨#IrsS1_2, ArsS1_2, CrsS1_2⟩, #Hlev, HO, Hk⟩
  have hmwrsS0_30 := mayWait_end (F := F) c (.dma (semAt (arr rsS) 0 30))
  have hmwrsS0_31 := mayWait_end (F := F) c (.dma (semAt (arr rsS) 0 31))
  have hmwrsS1_1 := mayWait_end (F := F) c (.dma (semAt (arr rsS) 1 1))
  have hmwrsS1_2 := mayWait_end (F := F) c (.dma (semAt (arr rsS) 1 2))
  sl_exec_parts
  sl_step
  iapply Hk
  isplitl [ArsS0_30_pay1]; · iexact ArsS0_30_pay1
  isplitl [ArsS0_30]; · (isplitr; · iexact IrsS0_30); iexact ArsS0_30
  isplitl [ArsS0_31_pay1]; · iexact ArsS0_31_pay1
  isplitl [ArsS0_31]; · (isplitr; · iexact IrsS0_31); iexact ArsS0_31
  isplitl [ArsS1_1_pay1]; · iexact ArsS1_1_pay1
  isplitl [ArsS1_1]; · (isplitr; · iexact IrsS1_1); iexact ArsS1_1
  isplitl [ArsS1_2_pay1]; · iexact ArsS1_2_pay1
  isplitl [ArsS1_2]; · (isplitr; · iexact IrsS1_2); iexact ArsS1_2
  iexact HO

attribute [local sl_rounds] duties_dma amount_dma expect_dma pay_rsS in
set_option maxHeartbeats 4000000 in
theorem part101_spec (c : Dev nD)  (W : Waits sig Unit) (Q : (PUnit) → sProp 𝕄) :
    iprop(recvRes m K rsS c 1 3
      ∗ recvRes m K rsS c 1 4
      ∗ recvRes m K rsS c 1 5
      ∗ recvRes m K rsS c 1 6
      ∗ levAts L lv
      ∗ owes (c : Thread nD τ) (owedAfter c 155) W
      ∗ (∀ r, (((chunk accM (fwd c 3) 1).view.loc (c : Thread nD τ) ↦[(chunk accM (fwd c 3) 1).view.set]{fullShare} (chunk accM (fwd c 3) 1).view.rep (sent m c (fwd c 3) 1))
        ∗ (cellInv ER (sched m) (K (dmaCell c rsS 1 3)) (dmaCell c rsS 1 3) ∗ atPos ER (dmaCell c rsS 1 3) 1 ∅ 0)
        ∗ ((chunk accM (fwd c 4) 1).view.loc (c : Thread nD τ) ↦[(chunk accM (fwd c 4) 1).view.set]{fullShare} (chunk accM (fwd c 4) 1).view.rep (sent m c (fwd c 4) 1))
        ∗ (cellInv ER (sched m) (K (dmaCell c rsS 1 4)) (dmaCell c rsS 1 4) ∗ atPos ER (dmaCell c rsS 1 4) 1 ∅ 0)
        ∗ ((chunk accM (fwd c 5) 1).view.loc (c : Thread nD τ) ↦[(chunk accM (fwd c 5) 1).view.set]{fullShare} (chunk accM (fwd c 5) 1).view.rep (sent m c (fwd c 5) 1))
        ∗ (cellInv ER (sched m) (K (dmaCell c rsS 1 5)) (dmaCell c rsS 1 5) ∗ atPos ER (dmaCell c rsS 1 5) 1 ∅ 0)
        ∗ ((chunk accM (fwd c 6) 1).view.loc (c : Thread nD τ) ↦[(chunk accM (fwd c 6) 1).view.set]{fullShare} (chunk accM (fwd c 6) 1).view.rep (sent m c (fwd c 6) 1))
        ∗ (cellInv ER (sched m) (K (dmaCell c rsS 1 6)) (dmaCell c rsS 1 6) ∗ atPos ER (dmaCell c rsS 1 6) 1 ∅ 0)
        ∗ owes (c : Thread nD τ) (owedAfter c 155) (insert (SemLoc.dma (semAt (arr rsS) 1 6), ()) (insert (SemLoc.dma (semAt (arr rsS) 1 5), ()) (insert (SemLoc.dma (semAt (arr rsS) 1 4), ()) (insert (SemLoc.dma (semAt (arr rsS) 1 3), ()) (W)))))) -∗ Q r))
      ⊢ wp frame (wpE (defs₀ (F := F)) 𝒱₀ c none) Set.univ (k0_part101 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS1_3, ArsS1_3, CrsS1_3⟩, ⟨#IrsS1_4, ArsS1_4, CrsS1_4⟩, ⟨#IrsS1_5, ArsS1_5, CrsS1_5⟩, ⟨#IrsS1_6, ArsS1_6, CrsS1_6⟩, #Hlev, HO, Hk⟩
  have hmwrsS1_3 := mayWait_end (F := F) c (.dma (semAt (arr rsS) 1 3))
  have hmwrsS1_4 := mayWait_end (F := F) c (.dma (semAt (arr rsS) 1 4))
  have hmwrsS1_5 := mayWait_end (F := F) c (.dma (semAt (arr rsS) 1 5))
  have hmwrsS1_6 := mayWait_end (F := F) c (.dma (semAt (arr rsS) 1 6))
  sl_exec_parts
  sl_step
  iapply Hk
  isplitl [ArsS1_3_pay1]; · iexact ArsS1_3_pay1
  isplitl [ArsS1_3]; · (isplitr; · iexact IrsS1_3); iexact ArsS1_3
  isplitl [ArsS1_4_pay1]; · iexact ArsS1_4_pay1
  isplitl [ArsS1_4]; · (isplitr; · iexact IrsS1_4); iexact ArsS1_4
  isplitl [ArsS1_5_pay1]; · iexact ArsS1_5_pay1
  isplitl [ArsS1_5]; · (isplitr; · iexact IrsS1_5); iexact ArsS1_5
  isplitl [ArsS1_6_pay1]; · iexact ArsS1_6_pay1
  isplitl [ArsS1_6]; · (isplitr; · iexact IrsS1_6); iexact ArsS1_6
  iexact HO

attribute [local sl_rounds] duties_dma amount_dma expect_dma pay_rsS in
set_option maxHeartbeats 4000000 in
theorem part102_spec (c : Dev nD)  (W : Waits sig Unit) (Q : (PUnit) → sProp 𝕄) :
    iprop(recvRes m K rsS c 1 7
      ∗ recvRes m K rsS c 1 8
      ∗ recvRes m K rsS c 1 9
      ∗ levAts L lv
      ∗ owes (c : Thread nD τ) (owedAfter c 155) W
      ∗ (∀ r, (((chunk accM (fwd c 7) 1).view.loc (c : Thread nD τ) ↦[(chunk accM (fwd c 7) 1).view.set]{fullShare} (chunk accM (fwd c 7) 1).view.rep (sent m c (fwd c 7) 1))
        ∗ (cellInv ER (sched m) (K (dmaCell c rsS 1 7)) (dmaCell c rsS 1 7) ∗ atPos ER (dmaCell c rsS 1 7) 1 ∅ 0)
        ∗ ((chunk accM (fwd c 8) 1).view.loc (c : Thread nD τ) ↦[(chunk accM (fwd c 8) 1).view.set]{fullShare} (chunk accM (fwd c 8) 1).view.rep (sent m c (fwd c 8) 1))
        ∗ (cellInv ER (sched m) (K (dmaCell c rsS 1 8)) (dmaCell c rsS 1 8) ∗ atPos ER (dmaCell c rsS 1 8) 1 ∅ 0)
        ∗ ((chunk accM (fwd c 9) 1).view.loc (c : Thread nD τ) ↦[(chunk accM (fwd c 9) 1).view.set]{fullShare} (chunk accM (fwd c 9) 1).view.rep (sent m c (fwd c 9) 1))
        ∗ (cellInv ER (sched m) (K (dmaCell c rsS 1 9)) (dmaCell c rsS 1 9) ∗ atPos ER (dmaCell c rsS 1 9) 1 ∅ 0)
        ∗ owes (c : Thread nD τ) (owedAfter c 155) (insert (SemLoc.dma (semAt (arr rsS) 1 9), ()) (insert (SemLoc.dma (semAt (arr rsS) 1 8), ()) (insert (SemLoc.dma (semAt (arr rsS) 1 7), ()) (W))))) -∗ Q r))
      ⊢ wp frame (wpE (defs₀ (F := F)) 𝒱₀ c none) Set.univ (k0_part102 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS1_7, ArsS1_7, CrsS1_7⟩, ⟨#IrsS1_8, ArsS1_8, CrsS1_8⟩, ⟨#IrsS1_9, ArsS1_9, CrsS1_9⟩, #Hlev, HO, Hk⟩
  have hmwrsS1_7 := mayWait_end (F := F) c (.dma (semAt (arr rsS) 1 7))
  have hmwrsS1_8 := mayWait_end (F := F) c (.dma (semAt (arr rsS) 1 8))
  have hmwrsS1_9 := mayWait_end (F := F) c (.dma (semAt (arr rsS) 1 9))
  sl_exec_parts
  sl_step
  iapply Hk
  isplitl [ArsS1_7_pay1]; · iexact ArsS1_7_pay1
  isplitl [ArsS1_7]; · (isplitr; · iexact IrsS1_7); iexact ArsS1_7
  isplitl [ArsS1_8_pay1]; · iexact ArsS1_8_pay1
  isplitl [ArsS1_8]; · (isplitr; · iexact IrsS1_8); iexact ArsS1_8
  isplitl [ArsS1_9_pay1]; · iexact ArsS1_9_pay1
  isplitl [ArsS1_9]; · (isplitr; · iexact IrsS1_9); iexact ArsS1_9
  iexact HO

attribute [local sl_rounds] duties_dma amount_dma expect_dma pay_rsS in
set_option maxHeartbeats 4000000 in
theorem part103_spec (c : Dev nD)  (W : Waits sig Unit) (Q : (PUnit) → sProp 𝕄) :
    iprop(recvRes m K rsS c 1 10
      ∗ recvRes m K rsS c 1 11
      ∗ recvRes m K rsS c 1 12
      ∗ recvRes m K rsS c 1 13
      ∗ levAts L lv
      ∗ owes (c : Thread nD τ) (owedAfter c 155) W
      ∗ (∀ r, (((chunk accM (fwd c 10) 1).view.loc (c : Thread nD τ) ↦[(chunk accM (fwd c 10) 1).view.set]{fullShare} (chunk accM (fwd c 10) 1).view.rep (sent m c (fwd c 10) 1))
        ∗ (cellInv ER (sched m) (K (dmaCell c rsS 1 10)) (dmaCell c rsS 1 10) ∗ atPos ER (dmaCell c rsS 1 10) 1 ∅ 0)
        ∗ ((chunk accM (fwd c 11) 1).view.loc (c : Thread nD τ) ↦[(chunk accM (fwd c 11) 1).view.set]{fullShare} (chunk accM (fwd c 11) 1).view.rep (sent m c (fwd c 11) 1))
        ∗ (cellInv ER (sched m) (K (dmaCell c rsS 1 11)) (dmaCell c rsS 1 11) ∗ atPos ER (dmaCell c rsS 1 11) 1 ∅ 0)
        ∗ ((chunk accM (fwd c 12) 1).view.loc (c : Thread nD τ) ↦[(chunk accM (fwd c 12) 1).view.set]{fullShare} (chunk accM (fwd c 12) 1).view.rep (sent m c (fwd c 12) 1))
        ∗ (cellInv ER (sched m) (K (dmaCell c rsS 1 12)) (dmaCell c rsS 1 12) ∗ atPos ER (dmaCell c rsS 1 12) 1 ∅ 0)
        ∗ ((chunk accM (fwd c 13) 1).view.loc (c : Thread nD τ) ↦[(chunk accM (fwd c 13) 1).view.set]{fullShare} (chunk accM (fwd c 13) 1).view.rep (sent m c (fwd c 13) 1))
        ∗ (cellInv ER (sched m) (K (dmaCell c rsS 1 13)) (dmaCell c rsS 1 13) ∗ atPos ER (dmaCell c rsS 1 13) 1 ∅ 0)
        ∗ owes (c : Thread nD τ) (owedAfter c 155) (insert (SemLoc.dma (semAt (arr rsS) 1 13), ()) (insert (SemLoc.dma (semAt (arr rsS) 1 12), ()) (insert (SemLoc.dma (semAt (arr rsS) 1 11), ()) (insert (SemLoc.dma (semAt (arr rsS) 1 10), ()) (W)))))) -∗ Q r))
      ⊢ wp frame (wpE (defs₀ (F := F)) 𝒱₀ c none) Set.univ (k0_part103 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS1_10, ArsS1_10, CrsS1_10⟩, ⟨#IrsS1_11, ArsS1_11, CrsS1_11⟩, ⟨#IrsS1_12, ArsS1_12, CrsS1_12⟩, ⟨#IrsS1_13, ArsS1_13, CrsS1_13⟩, #Hlev, HO, Hk⟩
  have hmwrsS1_10 := mayWait_end (F := F) c (.dma (semAt (arr rsS) 1 10))
  have hmwrsS1_11 := mayWait_end (F := F) c (.dma (semAt (arr rsS) 1 11))
  have hmwrsS1_12 := mayWait_end (F := F) c (.dma (semAt (arr rsS) 1 12))
  have hmwrsS1_13 := mayWait_end (F := F) c (.dma (semAt (arr rsS) 1 13))
  sl_exec_parts
  sl_step
  iapply Hk
  isplitl [ArsS1_10_pay1]; · iexact ArsS1_10_pay1
  isplitl [ArsS1_10]; · (isplitr; · iexact IrsS1_10); iexact ArsS1_10
  isplitl [ArsS1_11_pay1]; · iexact ArsS1_11_pay1
  isplitl [ArsS1_11]; · (isplitr; · iexact IrsS1_11); iexact ArsS1_11
  isplitl [ArsS1_12_pay1]; · iexact ArsS1_12_pay1
  isplitl [ArsS1_12]; · (isplitr; · iexact IrsS1_12); iexact ArsS1_12
  isplitl [ArsS1_13_pay1]; · iexact ArsS1_13_pay1
  isplitl [ArsS1_13]; · (isplitr; · iexact IrsS1_13); iexact ArsS1_13
  iexact HO

attribute [local sl_rounds] duties_dma amount_dma expect_dma pay_rsS in
set_option maxHeartbeats 4000000 in
theorem part104_spec (c : Dev nD)  (W : Waits sig Unit) (Q : (PUnit) → sProp 𝕄) :
    iprop(recvRes m K rsS c 1 14
      ∗ recvRes m K rsS c 1 15
      ∗ recvRes m K rsS c 1 16
      ∗ recvRes m K rsS c 1 17
      ∗ levAts L lv
      ∗ owes (c : Thread nD τ) (owedAfter c 155) W
      ∗ (∀ r, (((chunk accM (fwd c 14) 1).view.loc (c : Thread nD τ) ↦[(chunk accM (fwd c 14) 1).view.set]{fullShare} (chunk accM (fwd c 14) 1).view.rep (sent m c (fwd c 14) 1))
        ∗ (cellInv ER (sched m) (K (dmaCell c rsS 1 14)) (dmaCell c rsS 1 14) ∗ atPos ER (dmaCell c rsS 1 14) 1 ∅ 0)
        ∗ ((chunk accM (fwd c 15) 1).view.loc (c : Thread nD τ) ↦[(chunk accM (fwd c 15) 1).view.set]{fullShare} (chunk accM (fwd c 15) 1).view.rep (sent m c (fwd c 15) 1))
        ∗ (cellInv ER (sched m) (K (dmaCell c rsS 1 15)) (dmaCell c rsS 1 15) ∗ atPos ER (dmaCell c rsS 1 15) 1 ∅ 0)
        ∗ ((chunk accM (fwd c 16) 1).view.loc (c : Thread nD τ) ↦[(chunk accM (fwd c 16) 1).view.set]{fullShare} (chunk accM (fwd c 16) 1).view.rep (sent m c (fwd c 16) 1))
        ∗ (cellInv ER (sched m) (K (dmaCell c rsS 1 16)) (dmaCell c rsS 1 16) ∗ atPos ER (dmaCell c rsS 1 16) 1 ∅ 0)
        ∗ ((chunk accM (fwd c 17) 1).view.loc (c : Thread nD τ) ↦[(chunk accM (fwd c 17) 1).view.set]{fullShare} (chunk accM (fwd c 17) 1).view.rep (sent m c (fwd c 17) 1))
        ∗ (cellInv ER (sched m) (K (dmaCell c rsS 1 17)) (dmaCell c rsS 1 17) ∗ atPos ER (dmaCell c rsS 1 17) 1 ∅ 0)
        ∗ owes (c : Thread nD τ) (owedAfter c 155) (insert (SemLoc.dma (semAt (arr rsS) 1 17), ()) (insert (SemLoc.dma (semAt (arr rsS) 1 16), ()) (insert (SemLoc.dma (semAt (arr rsS) 1 15), ()) (insert (SemLoc.dma (semAt (arr rsS) 1 14), ()) (W)))))) -∗ Q r))
      ⊢ wp frame (wpE (defs₀ (F := F)) 𝒱₀ c none) Set.univ (k0_part104 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS1_14, ArsS1_14, CrsS1_14⟩, ⟨#IrsS1_15, ArsS1_15, CrsS1_15⟩, ⟨#IrsS1_16, ArsS1_16, CrsS1_16⟩, ⟨#IrsS1_17, ArsS1_17, CrsS1_17⟩, #Hlev, HO, Hk⟩
  have hmwrsS1_14 := mayWait_end (F := F) c (.dma (semAt (arr rsS) 1 14))
  have hmwrsS1_15 := mayWait_end (F := F) c (.dma (semAt (arr rsS) 1 15))
  have hmwrsS1_16 := mayWait_end (F := F) c (.dma (semAt (arr rsS) 1 16))
  have hmwrsS1_17 := mayWait_end (F := F) c (.dma (semAt (arr rsS) 1 17))
  sl_exec_parts
  sl_step
  iapply Hk
  isplitl [ArsS1_14_pay1]; · iexact ArsS1_14_pay1
  isplitl [ArsS1_14]; · (isplitr; · iexact IrsS1_14); iexact ArsS1_14
  isplitl [ArsS1_15_pay1]; · iexact ArsS1_15_pay1
  isplitl [ArsS1_15]; · (isplitr; · iexact IrsS1_15); iexact ArsS1_15
  isplitl [ArsS1_16_pay1]; · iexact ArsS1_16_pay1
  isplitl [ArsS1_16]; · (isplitr; · iexact IrsS1_16); iexact ArsS1_16
  isplitl [ArsS1_17_pay1]; · iexact ArsS1_17_pay1
  isplitl [ArsS1_17]; · (isplitr; · iexact IrsS1_17); iexact ArsS1_17
  iexact HO

attribute [local sl_rounds] duties_dma amount_dma expect_dma pay_rsS in
set_option maxHeartbeats 4000000 in
theorem part105_spec (c : Dev nD)  (W : Waits sig Unit) (Q : (PUnit) → sProp 𝕄) :
    iprop(recvRes m K rsS c 1 18
      ∗ recvRes m K rsS c 1 19
      ∗ recvRes m K rsS c 1 20
      ∗ recvRes m K rsS c 1 21
      ∗ levAts L lv
      ∗ owes (c : Thread nD τ) (owedAfter c 155) W
      ∗ (∀ r, (((chunk accM (fwd c 18) 1).view.loc (c : Thread nD τ) ↦[(chunk accM (fwd c 18) 1).view.set]{fullShare} (chunk accM (fwd c 18) 1).view.rep (sent m c (fwd c 18) 1))
        ∗ (cellInv ER (sched m) (K (dmaCell c rsS 1 18)) (dmaCell c rsS 1 18) ∗ atPos ER (dmaCell c rsS 1 18) 1 ∅ 0)
        ∗ ((chunk accM (fwd c 19) 1).view.loc (c : Thread nD τ) ↦[(chunk accM (fwd c 19) 1).view.set]{fullShare} (chunk accM (fwd c 19) 1).view.rep (sent m c (fwd c 19) 1))
        ∗ (cellInv ER (sched m) (K (dmaCell c rsS 1 19)) (dmaCell c rsS 1 19) ∗ atPos ER (dmaCell c rsS 1 19) 1 ∅ 0)
        ∗ ((chunk accM (fwd c 20) 1).view.loc (c : Thread nD τ) ↦[(chunk accM (fwd c 20) 1).view.set]{fullShare} (chunk accM (fwd c 20) 1).view.rep (sent m c (fwd c 20) 1))
        ∗ (cellInv ER (sched m) (K (dmaCell c rsS 1 20)) (dmaCell c rsS 1 20) ∗ atPos ER (dmaCell c rsS 1 20) 1 ∅ 0)
        ∗ ((chunk accM (fwd c 21) 1).view.loc (c : Thread nD τ) ↦[(chunk accM (fwd c 21) 1).view.set]{fullShare} (chunk accM (fwd c 21) 1).view.rep (sent m c (fwd c 21) 1))
        ∗ (cellInv ER (sched m) (K (dmaCell c rsS 1 21)) (dmaCell c rsS 1 21) ∗ atPos ER (dmaCell c rsS 1 21) 1 ∅ 0)
        ∗ owes (c : Thread nD τ) (owedAfter c 155) (insert (SemLoc.dma (semAt (arr rsS) 1 21), ()) (insert (SemLoc.dma (semAt (arr rsS) 1 20), ()) (insert (SemLoc.dma (semAt (arr rsS) 1 19), ()) (insert (SemLoc.dma (semAt (arr rsS) 1 18), ()) (W)))))) -∗ Q r))
      ⊢ wp frame (wpE (defs₀ (F := F)) 𝒱₀ c none) Set.univ (k0_part105 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS1_18, ArsS1_18, CrsS1_18⟩, ⟨#IrsS1_19, ArsS1_19, CrsS1_19⟩, ⟨#IrsS1_20, ArsS1_20, CrsS1_20⟩, ⟨#IrsS1_21, ArsS1_21, CrsS1_21⟩, #Hlev, HO, Hk⟩
  have hmwrsS1_18 := mayWait_end (F := F) c (.dma (semAt (arr rsS) 1 18))
  have hmwrsS1_19 := mayWait_end (F := F) c (.dma (semAt (arr rsS) 1 19))
  have hmwrsS1_20 := mayWait_end (F := F) c (.dma (semAt (arr rsS) 1 20))
  have hmwrsS1_21 := mayWait_end (F := F) c (.dma (semAt (arr rsS) 1 21))
  sl_exec_parts
  sl_step
  iapply Hk
  isplitl [ArsS1_18_pay1]; · iexact ArsS1_18_pay1
  isplitl [ArsS1_18]; · (isplitr; · iexact IrsS1_18); iexact ArsS1_18
  isplitl [ArsS1_19_pay1]; · iexact ArsS1_19_pay1
  isplitl [ArsS1_19]; · (isplitr; · iexact IrsS1_19); iexact ArsS1_19
  isplitl [ArsS1_20_pay1]; · iexact ArsS1_20_pay1
  isplitl [ArsS1_20]; · (isplitr; · iexact IrsS1_20); iexact ArsS1_20
  isplitl [ArsS1_21_pay1]; · iexact ArsS1_21_pay1
  isplitl [ArsS1_21]; · (isplitr; · iexact IrsS1_21); iexact ArsS1_21
  iexact HO

attribute [local sl_rounds] duties_dma amount_dma expect_dma pay_rsS in
set_option maxHeartbeats 4000000 in
theorem part106_spec (c : Dev nD)  (W : Waits sig Unit) (Q : (PUnit) → sProp 𝕄) :
    iprop(recvRes m K rsS c 1 22
      ∗ recvRes m K rsS c 1 23
      ∗ recvRes m K rsS c 1 24
      ∗ levAts L lv
      ∗ owes (c : Thread nD τ) (owedAfter c 155) W
      ∗ (∀ r, (((chunk accM (fwd c 22) 1).view.loc (c : Thread nD τ) ↦[(chunk accM (fwd c 22) 1).view.set]{fullShare} (chunk accM (fwd c 22) 1).view.rep (sent m c (fwd c 22) 1))
        ∗ (cellInv ER (sched m) (K (dmaCell c rsS 1 22)) (dmaCell c rsS 1 22) ∗ atPos ER (dmaCell c rsS 1 22) 1 ∅ 0)
        ∗ ((chunk accM (fwd c 23) 1).view.loc (c : Thread nD τ) ↦[(chunk accM (fwd c 23) 1).view.set]{fullShare} (chunk accM (fwd c 23) 1).view.rep (sent m c (fwd c 23) 1))
        ∗ (cellInv ER (sched m) (K (dmaCell c rsS 1 23)) (dmaCell c rsS 1 23) ∗ atPos ER (dmaCell c rsS 1 23) 1 ∅ 0)
        ∗ ((chunk accM (fwd c 24) 1).view.loc (c : Thread nD τ) ↦[(chunk accM (fwd c 24) 1).view.set]{fullShare} (chunk accM (fwd c 24) 1).view.rep (sent m c (fwd c 24) 1))
        ∗ (cellInv ER (sched m) (K (dmaCell c rsS 1 24)) (dmaCell c rsS 1 24) ∗ atPos ER (dmaCell c rsS 1 24) 1 ∅ 0)
        ∗ owes (c : Thread nD τ) (owedAfter c 155) (insert (SemLoc.dma (semAt (arr rsS) 1 24), ()) (insert (SemLoc.dma (semAt (arr rsS) 1 23), ()) (insert (SemLoc.dma (semAt (arr rsS) 1 22), ()) (W))))) -∗ Q r))
      ⊢ wp frame (wpE (defs₀ (F := F)) 𝒱₀ c none) Set.univ (k0_part106 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS1_22, ArsS1_22, CrsS1_22⟩, ⟨#IrsS1_23, ArsS1_23, CrsS1_23⟩, ⟨#IrsS1_24, ArsS1_24, CrsS1_24⟩, #Hlev, HO, Hk⟩
  have hmwrsS1_22 := mayWait_end (F := F) c (.dma (semAt (arr rsS) 1 22))
  have hmwrsS1_23 := mayWait_end (F := F) c (.dma (semAt (arr rsS) 1 23))
  have hmwrsS1_24 := mayWait_end (F := F) c (.dma (semAt (arr rsS) 1 24))
  sl_exec_parts
  sl_step
  iapply Hk
  isplitl [ArsS1_22_pay1]; · iexact ArsS1_22_pay1
  isplitl [ArsS1_22]; · (isplitr; · iexact IrsS1_22); iexact ArsS1_22
  isplitl [ArsS1_23_pay1]; · iexact ArsS1_23_pay1
  isplitl [ArsS1_23]; · (isplitr; · iexact IrsS1_23); iexact ArsS1_23
  isplitl [ArsS1_24_pay1]; · iexact ArsS1_24_pay1
  isplitl [ArsS1_24]; · (isplitr; · iexact IrsS1_24); iexact ArsS1_24
  iexact HO

attribute [local sl_rounds] duties_dma amount_dma expect_dma pay_rsS in
set_option maxHeartbeats 4000000 in
theorem part107_spec (c : Dev nD)  (W : Waits sig Unit) (Q : (PUnit) → sProp 𝕄) :
    iprop(recvRes m K rsS c 1 25
      ∗ recvRes m K rsS c 1 26
      ∗ recvRes m K rsS c 1 27
      ∗ recvRes m K rsS c 1 28
      ∗ levAts L lv
      ∗ owes (c : Thread nD τ) (owedAfter c 155) W
      ∗ (∀ r, (((chunk accM (fwd c 25) 1).view.loc (c : Thread nD τ) ↦[(chunk accM (fwd c 25) 1).view.set]{fullShare} (chunk accM (fwd c 25) 1).view.rep (sent m c (fwd c 25) 1))
        ∗ (cellInv ER (sched m) (K (dmaCell c rsS 1 25)) (dmaCell c rsS 1 25) ∗ atPos ER (dmaCell c rsS 1 25) 1 ∅ 0)
        ∗ ((chunk accM (fwd c 26) 1).view.loc (c : Thread nD τ) ↦[(chunk accM (fwd c 26) 1).view.set]{fullShare} (chunk accM (fwd c 26) 1).view.rep (sent m c (fwd c 26) 1))
        ∗ (cellInv ER (sched m) (K (dmaCell c rsS 1 26)) (dmaCell c rsS 1 26) ∗ atPos ER (dmaCell c rsS 1 26) 1 ∅ 0)
        ∗ ((chunk accM (fwd c 27) 1).view.loc (c : Thread nD τ) ↦[(chunk accM (fwd c 27) 1).view.set]{fullShare} (chunk accM (fwd c 27) 1).view.rep (sent m c (fwd c 27) 1))
        ∗ (cellInv ER (sched m) (K (dmaCell c rsS 1 27)) (dmaCell c rsS 1 27) ∗ atPos ER (dmaCell c rsS 1 27) 1 ∅ 0)
        ∗ ((chunk accM (fwd c 28) 1).view.loc (c : Thread nD τ) ↦[(chunk accM (fwd c 28) 1).view.set]{fullShare} (chunk accM (fwd c 28) 1).view.rep (sent m c (fwd c 28) 1))
        ∗ (cellInv ER (sched m) (K (dmaCell c rsS 1 28)) (dmaCell c rsS 1 28) ∗ atPos ER (dmaCell c rsS 1 28) 1 ∅ 0)
        ∗ owes (c : Thread nD τ) (owedAfter c 155) (insert (SemLoc.dma (semAt (arr rsS) 1 28), ()) (insert (SemLoc.dma (semAt (arr rsS) 1 27), ()) (insert (SemLoc.dma (semAt (arr rsS) 1 26), ()) (insert (SemLoc.dma (semAt (arr rsS) 1 25), ()) (W)))))) -∗ Q r))
      ⊢ wp frame (wpE (defs₀ (F := F)) 𝒱₀ c none) Set.univ (k0_part107 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS1_25, ArsS1_25, CrsS1_25⟩, ⟨#IrsS1_26, ArsS1_26, CrsS1_26⟩, ⟨#IrsS1_27, ArsS1_27, CrsS1_27⟩, ⟨#IrsS1_28, ArsS1_28, CrsS1_28⟩, #Hlev, HO, Hk⟩
  have hmwrsS1_25 := mayWait_end (F := F) c (.dma (semAt (arr rsS) 1 25))
  have hmwrsS1_26 := mayWait_end (F := F) c (.dma (semAt (arr rsS) 1 26))
  have hmwrsS1_27 := mayWait_end (F := F) c (.dma (semAt (arr rsS) 1 27))
  have hmwrsS1_28 := mayWait_end (F := F) c (.dma (semAt (arr rsS) 1 28))
  sl_exec_parts
  sl_step
  iapply Hk
  isplitl [ArsS1_25_pay1]; · iexact ArsS1_25_pay1
  isplitl [ArsS1_25]; · (isplitr; · iexact IrsS1_25); iexact ArsS1_25
  isplitl [ArsS1_26_pay1]; · iexact ArsS1_26_pay1
  isplitl [ArsS1_26]; · (isplitr; · iexact IrsS1_26); iexact ArsS1_26
  isplitl [ArsS1_27_pay1]; · iexact ArsS1_27_pay1
  isplitl [ArsS1_27]; · (isplitr; · iexact IrsS1_27); iexact ArsS1_27
  isplitl [ArsS1_28_pay1]; · iexact ArsS1_28_pay1
  isplitl [ArsS1_28]; · (isplitr; · iexact IrsS1_28); iexact ArsS1_28
  iexact HO

attribute [local sl_rounds] duties_dma amount_dma expect_dma pay_rsS in
set_option maxHeartbeats 4000000 in
theorem part108_spec (c : Dev nD) (v2 : BitVec 32) (W : Waits sig Unit) (Q : (PUnit) → sProp 𝕄) :
    iprop(recvRes m K rsS c 1 29
      ∗ recvRes m K rsS c 1 30
      ∗ recvRes m K rsS c 1 31
      ∗ levAts L lv
      ∗ owes (c : Thread nD τ) (owedAfter c 155) W
      ∗ (∀ r, (((chunk accM (fwd c 29) 1).view.loc (c : Thread nD τ) ↦[(chunk accM (fwd c 29) 1).view.set]{fullShare} (chunk accM (fwd c 29) 1).view.rep (sent m c (fwd c 29) 1))
        ∗ (cellInv ER (sched m) (K (dmaCell c rsS 1 29)) (dmaCell c rsS 1 29) ∗ atPos ER (dmaCell c rsS 1 29) 1 ∅ 0)
        ∗ ((chunk accM (fwd c 30) 1).view.loc (c : Thread nD τ) ↦[(chunk accM (fwd c 30) 1).view.set]{fullShare} (chunk accM (fwd c 30) 1).view.rep (sent m c (fwd c 30) 1))
        ∗ (cellInv ER (sched m) (K (dmaCell c rsS 1 30)) (dmaCell c rsS 1 30) ∗ atPos ER (dmaCell c rsS 1 30) 1 ∅ 0)
        ∗ ((chunk accM (fwd c 31) 1).view.loc (c : Thread nD τ) ↦[(chunk accM (fwd c 31) 1).view.set]{fullShare} (chunk accM (fwd c 31) 1).view.rep (sent m c (fwd c 31) 1))
        ∗ (cellInv ER (sched m) (K (dmaCell c rsS 1 31)) (dmaCell c rsS 1 31) ∗ atPos ER (dmaCell c rsS 1 31) 1 ∅ 0)
        ∗ owes (c : Thread nD τ) (owedAfter c 155) (insert (SemLoc.dma (semAt (arr rsS) 1 31), ()) (insert (SemLoc.dma (semAt (arr rsS) 1 30), ()) (insert (SemLoc.dma (semAt (arr rsS) 1 29), ()) (W))))) -∗ Q r))
      ⊢ wp frame (wpE (defs₀ (F := F)) 𝒱₀ c none) Set.univ (k0_part108 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold recvRes
  iintro ⟨⟨#IrsS1_29, ArsS1_29, CrsS1_29⟩, ⟨#IrsS1_30, ArsS1_30, CrsS1_30⟩, ⟨#IrsS1_31, ArsS1_31, CrsS1_31⟩, #Hlev, HO, Hk⟩
  have hmwrsS1_29 := mayWait_end (F := F) c (.dma (semAt (arr rsS) 1 29))
  have hmwrsS1_30 := mayWait_end (F := F) c (.dma (semAt (arr rsS) 1 30))
  have hmwrsS1_31 := mayWait_end (F := F) c (.dma (semAt (arr rsS) 1 31))
  sl_exec_parts
  sl_step
  iapply Hk
  isplitl [ArsS1_29_pay1]; · iexact ArsS1_29_pay1
  isplitl [ArsS1_29]; · (isplitr; · iexact IrsS1_29); iexact ArsS1_29
  isplitl [ArsS1_30_pay1]; · iexact ArsS1_30_pay1
  isplitl [ArsS1_30]; · (isplitr; · iexact IrsS1_30); iexact ArsS1_30
  isplitl [ArsS1_31_pay1]; · iexact ArsS1_31_pay1
  isplitl [ArsS1_31]; · (isplitr; · iexact IrsS1_31); iexact ArsS1_31
  iexact HO

end Cert.KernelIdeal.AllReduce

end
-- ==== Proof.BodyWaitsD.lean ====
/-
  The receive waits of the gather phase: each hands the device the finished rows of one peer.
  One statement per printed part of the kernel body, over the resources that part touches and nothing else.
-/
import proofs.«900438_g7700000000000439_dist_gemm_ar_m1024_k1024_n1024_f32_gelu_v7x_i32_1_alg».proof.Proof.BodyTables
noncomputable section
namespace Cert.KernelIdeal.AllReduce
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_agR in
set_option maxHeartbeats 4000000 in
theorem part109_spec (c : Dev nD) (v2 : BitVec 32) (W : Waits sig Unit) (Q : (Σ' (v2718 : BitVec 32), BitVec 32) → sProp 𝕄) :
    iprop(recvRes m K agR c 0 1
      ∗ recvRes m K agR c 0 2
      ∗ recvRes m K agR c 0 3
      ∗ levAts L lv
      ∗ owes (c : Thread nD τ) (owedAfter c 155) W
      ∗ (∀ r, (((chunk outM (bwd c 1) 0).view.loc (c : Thread nD τ) ↦[(chunk outM (bwd c 1) 0).view.set]{fullShare} (chunk outM (bwd c 1) 0).view.rep (reduced m (bwd c 1) 0))
        ∗ (cellInv ER (sched m) (K (dmaCell c agR 0 1)) (dmaCell c agR 0 1) ∗ atPos ER (dmaCell c agR 0 1) 1 ∅ 0)
        ∗ ((chunk outM (bwd c 2) 0).view.loc (c : Thread nD τ) ↦[(chunk outM (bwd c 2) 0).view.set]{fullShare} (chunk outM (bwd c 2) 0).view.rep (reduced m (bwd c 2) 0))
        ∗ (cellInv ER (sched m) (K (dmaCell c agR 0 2)) (dmaCell c agR 0 2) ∗ atPos ER (dmaCell c agR 0 2) 1 ∅ 0)
        ∗ ((chunk outM (bwd c 3) 0).view.loc (c : Thread nD τ) ↦[(chunk outM (bwd c 3) 0).view.set]{fullShare} (chunk outM (bwd c 3) 0).view.rep (reduced m (bwd c 3) 0))
        ∗ (cellInv ER (sched m) (K (dmaCell c agR 0 3)) (dmaCell c agR 0 3) ∗ atPos ER (dmaCell c agR 0 3) 1 ∅ 0)
        ∗ owes (c : Thread nD τ) (owedAfter c 155) (insert (SemLoc.dma (semAt (arr agR) 0 3), ()) (insert (SemLoc.dma (semAt (arr agR) 0 2), ()) (insert (SemLoc.dma (semAt (arr agR) 0 1), ()) (W))))) -∗ Q r))
      ⊢ wp frame (wpE (defs₀ (F := F)) 𝒱₀ c none) Set.univ (k0_part109 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold recvRes
  iintro ⟨⟨#IagR0_1, AagR0_1, CagR0_1⟩, ⟨#IagR0_2, AagR0_2, CagR0_2⟩, ⟨#IagR0_3, AagR0_3, CagR0_3⟩, #Hlev, HO, Hk⟩
  have hmwagR0_1 := mayWait_end (F := F) c (.dma (semAt (arr agR) 0 1))
  have hmwagR0_2 := mayWait_end (F := F) c (.dma (semAt (arr agR) 0 2))
  have hmwagR0_3 := mayWait_end (F := F) c (.dma (semAt (arr agR) 0 3))
  sl_exec_parts
  sl_step
  iapply Hk
  isplitl [AagR0_1_pay1]; · iexact AagR0_1_pay1
  isplitl [AagR0_1]; · (isplitr; · iexact IagR0_1); iexact AagR0_1
  isplitl [AagR0_2_pay1]; · iexact AagR0_2_pay1
  isplitl [AagR0_2]; · (isplitr; · iexact IagR0_2); iexact AagR0_2
  isplitl [AagR0_3_pay1]; · iexact AagR0_3_pay1
  isplitl [AagR0_3]; · (isplitr; · iexact IagR0_3); iexact AagR0_3
  iexact HO

attribute [local sl_rounds] duties_dma amount_dma expect_dma pay_agR in
set_option maxHeartbeats 4000000 in
theorem part110_spec (c : Dev nD) (v2 : BitVec 32) (v2718 : BitVec 32) (c32_i32_3491 : BitVec 32) (W : Waits sig Unit) (Q : (Σ' (v2741 : BitVec 32), BitVec 32) → sProp 𝕄) :
    iprop(recvRes m K agR c 0 4
      ∗ recvRes m K agR c 0 5
      ∗ levAts L lv
      ∗ owes (c : Thread nD τ) (owedAfter c 155) W
      ∗ (∀ r, (((chunk outM (bwd c 4) 0).view.loc (c : Thread nD τ) ↦[(chunk outM (bwd c 4) 0).view.set]{fullShare} (chunk outM (bwd c 4) 0).view.rep (reduced m (bwd c 4) 0))
        ∗ (cellInv ER (sched m) (K (dmaCell c agR 0 4)) (dmaCell c agR 0 4) ∗ atPos ER (dmaCell c agR 0 4) 1 ∅ 0)
        ∗ ((chunk outM (bwd c 5) 0).view.loc (c : Thread nD τ) ↦[(chunk outM (bwd c 5) 0).view.set]{fullShare} (chunk outM (bwd c 5) 0).view.rep (reduced m (bwd c 5) 0))
        ∗ (cellInv ER (sched m) (K (dmaCell c agR 0 5)) (dmaCell c agR 0 5) ∗ atPos ER (dmaCell c agR 0 5) 1 ∅ 0)
        ∗ owes (c : Thread nD τ) (owedAfter c 155) (insert (SemLoc.dma (semAt (arr agR) 0 5), ()) (insert (SemLoc.dma (semAt (arr agR) 0 4), ()) (W)))) -∗ Q r))
      ⊢ wp frame (wpE (defs₀ (F := F)) 𝒱₀ c none) Set.univ (k0_part110 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2718 c32_i32_3491) Q := by
  unfold recvRes
  iintro ⟨⟨#IagR0_4, AagR0_4, CagR0_4⟩, ⟨#IagR0_5, AagR0_5, CagR0_5⟩, #Hlev, HO, Hk⟩
  have hmwagR0_4 := mayWait_end (F := F) c (.dma (semAt (arr agR) 0 4))
  have hmwagR0_5 := mayWait_end (F := F) c (.dma (semAt (arr agR) 0 5))
  sl_exec_parts
  sl_step
  iapply Hk
  isplitl [AagR0_4_pay1]; · iexact AagR0_4_pay1
  isplitl [AagR0_4]; · (isplitr; · iexact IagR0_4); iexact AagR0_4
  isplitl [AagR0_5_pay1]; · iexact AagR0_5_pay1
  isplitl [AagR0_5]; · (isplitr; · iexact IagR0_5); iexact AagR0_5
  iexact HO

attribute [local sl_rounds] duties_dma amount_dma expect_dma pay_agR in
set_option maxHeartbeats 4000000 in
theorem part111_spec (c : Dev nD) (v2 : BitVec 32) (v2741 : BitVec 32) (c1_i32_3524 : BitVec 32) (W : Waits sig Unit) (Q : (PUnit) → sProp 𝕄) :
    iprop(recvRes m K agR c 0 6
      ∗ recvRes m K agR c 0 7
      ∗ recvRes m K agR c 0 8
      ∗ levAts L lv
      ∗ owes (c : Thread nD τ) (owedAfter c 155) W
      ∗ (∀ r, (((chunk outM (bwd c 6) 0).view.loc (c : Thread nD τ) ↦[(chunk outM (bwd c 6) 0).view.set]{fullShare} (chunk outM (bwd c 6) 0).view.rep (reduced m (bwd c 6) 0))
        ∗ (cellInv ER (sched m) (K (dmaCell c agR 0 6)) (dmaCell c agR 0 6) ∗ atPos ER (dmaCell c agR 0 6) 1 ∅ 0)
        ∗ ((chunk outM (bwd c 7) 0).view.loc (c : Thread nD τ) ↦[(chunk outM (bwd c 7) 0).view.set]{fullShare} (chunk outM (bwd c 7) 0).view.rep (reduced m (bwd c 7) 0))
        ∗ (cellInv ER (sched m) (K (dmaCell c agR 0 7)) (dmaCell c agR 0 7) ∗ atPos ER (dmaCell c agR 0 7) 1 ∅ 0)
        ∗ ((chunk outM (bwd c 8) 0).view.loc (c : Thread nD τ) ↦[(chunk outM (bwd c 8) 0).view.set]{fullShare} (chunk outM (bwd c 8) 0).view.rep (reduced m (bwd c 8) 0))
        ∗ (cellInv ER (sched m) (K (dmaCell c agR 0 8)) (dmaCell c agR 0 8) ∗ atPos ER (dmaCell c agR 0 8) 1 ∅ 0)
        ∗ owes (c : Thread nD τ) (owedAfter c 155) (insert (SemLoc.dma (semAt (arr agR) 0 8), ()) (insert (SemLoc.dma (semAt (arr agR) 0 7), ()) (insert (SemLoc.dma (semAt (arr agR) 0 6), ()) (W))))) -∗ Q r))
      ⊢ wp frame (wpE (defs₀ (F := F)) 𝒱₀ c none) Set.univ (k0_part111 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2741 c1_i32_3524) Q := by
  unfold recvRes
  iintro ⟨⟨#IagR0_6, AagR0_6, CagR0_6⟩, ⟨#IagR0_7, AagR0_7, CagR0_7⟩, ⟨#IagR0_8, AagR0_8, CagR0_8⟩, #Hlev, HO, Hk⟩
  have hmwagR0_6 := mayWait_end (F := F) c (.dma (semAt (arr agR) 0 6))
  have hmwagR0_7 := mayWait_end (F := F) c (.dma (semAt (arr agR) 0 7))
  have hmwagR0_8 := mayWait_end (F := F) c (.dma (semAt (arr agR) 0 8))
  sl_exec_parts
  sl_step
  iapply Hk
  isplitl [AagR0_6_pay1]; · iexact AagR0_6_pay1
  isplitl [AagR0_6]; · (isplitr; · iexact IagR0_6); iexact AagR0_6
  isplitl [AagR0_7_pay1]; · iexact AagR0_7_pay1
  isplitl [AagR0_7]; · (isplitr; · iexact IagR0_7); iexact AagR0_7
  isplitl [AagR0_8_pay1]; · iexact AagR0_8_pay1
  isplitl [AagR0_8]; · (isplitr; · iexact IagR0_8); iexact AagR0_8
  iexact HO

attribute [local sl_rounds] duties_dma amount_dma expect_dma pay_agR in
set_option maxHeartbeats 4000000 in
theorem part112_spec (c : Dev nD) (v2 : BitVec 32) (W : Waits sig Unit) (Q : (BitVec 32) → sProp 𝕄) :
    iprop(recvRes m K agR c 0 9
      ∗ recvRes m K agR c 0 10
      ∗ levAts L lv
      ∗ owes (c : Thread nD τ) (owedAfter c 155) W
      ∗ (∀ r, (((chunk outM (bwd c 9) 0).view.loc (c : Thread nD τ) ↦[(chunk outM (bwd c 9) 0).view.set]{fullShare} (chunk outM (bwd c 9) 0).view.rep (reduced m (bwd c 9) 0))
        ∗ (cellInv ER (sched m) (K (dmaCell c agR 0 9)) (dmaCell c agR 0 9) ∗ atPos ER (dmaCell c agR 0 9) 1 ∅ 0)
        ∗ ((chunk outM (bwd c 10) 0).view.loc (c : Thread nD τ) ↦[(chunk outM (bwd c 10) 0).view.set]{fullShare} (chunk outM (bwd c 10) 0).view.rep (reduced m (bwd c 10) 0))
        ∗ (cellInv ER (sched m) (K (dmaCell c agR 0 10)) (dmaCell c agR 0 10) ∗ atPos ER (dmaCell c agR 0 10) 1 ∅ 0)
        ∗ owes (c : Thread nD τ) (owedAfter c 155) (insert (SemLoc.dma (semAt (arr agR) 0 10), ()) (insert (SemLoc.dma (semAt (arr agR) 0 9), ()) (W)))) -∗ Q r))
      ⊢ wp frame (wpE (defs₀ (F := F)) 𝒱₀ c none) Set.univ (k0_part112 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold recvRes
  iintro ⟨⟨#IagR0_9, AagR0_9, CagR0_9⟩, ⟨#IagR0_10, AagR0_10, CagR0_10⟩, #Hlev, HO, Hk⟩
  have hmwagR0_9 := mayWait_end (F := F) c (.dma (semAt (arr agR) 0 9))
  have hmwagR0_10 := mayWait_end (F := F) c (.dma (semAt (arr agR) 0 10))
  sl_exec_parts
  sl_step
  iapply Hk
  isplitl [AagR0_9_pay1]; · iexact AagR0_9_pay1
  isplitl [AagR0_9]; · (isplitr; · iexact IagR0_9); iexact AagR0_9
  isplitl [AagR0_10_pay1]; · iexact AagR0_10_pay1
  isplitl [AagR0_10]; · (isplitr; · iexact IagR0_10); iexact AagR0_10
  iexact HO

attribute [local sl_rounds] duties_dma amount_dma expect_dma pay_agR in
set_option maxHeartbeats 4000000 in
theorem part113_spec (c : Dev nD) (v2 : BitVec 32) (v2796 : BitVec 32) (W : Waits sig Unit) (Q : (PUnit) → sProp 𝕄) :
    iprop(recvRes m K agR c 0 11
      ∗ recvRes m K agR c 0 12
      ∗ levAts L lv
      ∗ owes (c : Thread nD τ) (owedAfter c 155) W
      ∗ (∀ r, (((chunk outM (bwd c 11) 0).view.loc (c : Thread nD τ) ↦[(chunk outM (bwd c 11) 0).view.set]{fullShare} (chunk outM (bwd c 11) 0).view.rep (reduced m (bwd c 11) 0))
        ∗ (cellInv ER (sched m) (K (dmaCell c agR 0 11)) (dmaCell c agR 0 11) ∗ atPos ER (dmaCell c agR 0 11) 1 ∅ 0)
        ∗ ((chunk outM (bwd c 12) 0).view.loc (c : Thread nD τ) ↦[(chunk outM (bwd c 12) 0).view.set]{fullShare} (chunk outM (bwd c 12) 0).view.rep (reduced m (bwd c 12) 0))
        ∗ (cellInv ER (sched m) (K (dmaCell c agR 0 12)) (dmaCell c agR 0 12) ∗ atPos ER (dmaCell c agR 0 12) 1 ∅ 0)
        ∗ owes (c : Thread nD τ) (owedAfter c 155) (insert (SemLoc.dma (semAt (arr agR) 0 12), ()) (insert (SemLoc.dma (semAt (arr agR) 0 11), ()) (W)))) -∗ Q r))
      ⊢ wp frame (wpE (defs₀ (F := F)) 𝒱₀ c none) Set.univ (k0_part113 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2796) Q := by
  unfold recvRes
  iintro ⟨⟨#IagR0_11, AagR0_11, CagR0_11⟩, ⟨#IagR0_12, AagR0_12, CagR0_12⟩, #Hlev, HO, Hk⟩
  have hmwagR0_11 := mayWait_end (F := F) c (.dma (semAt (arr agR) 0 11))
  have hmwagR0_12 := mayWait_end (F := F) c (.dma (semAt (arr agR) 0 12))
  sl_exec_parts
  sl_step
  iapply Hk
  isplitl [AagR0_11_pay1]; · iexact AagR0_11_pay1
  isplitl [AagR0_11]; · (isplitr; · iexact IagR0_11); iexact AagR0_11
  isplitl [AagR0_12_pay1]; · iexact AagR0_12_pay1
  isplitl [AagR0_12]; · (isplitr; · iexact IagR0_12); iexact AagR0_12
  iexact HO

attribute [local sl_rounds] duties_dma amount_dma expect_dma pay_agR in
set_option maxHeartbeats 4000000 in
theorem part114_spec (c : Dev nD) (v2 : BitVec 32) (W : Waits sig Unit) (Q : (Σ' (v2850 : BitVec 32), BitVec 32) → sProp 𝕄) :
    iprop(recvRes m K agR c 0 13
      ∗ recvRes m K agR c 0 14
      ∗ recvRes m K agR c 0 15
      ∗ levAts L lv
      ∗ owes (c : Thread nD τ) (owedAfter c 155) W
      ∗ (∀ r, (((chunk outM (bwd c 13) 0).view.loc (c : Thread nD τ) ↦[(chunk outM (bwd c 13) 0).view.set]{fullShare} (chunk outM (bwd c 13) 0).view.rep (reduced m (bwd c 13) 0))
        ∗ (cellInv ER (sched m) (K (dmaCell c agR 0 13)) (dmaCell c agR 0 13) ∗ atPos ER (dmaCell c agR 0 13) 1 ∅ 0)
        ∗ ((chunk outM (bwd c 14) 0).view.loc (c : Thread nD τ) ↦[(chunk outM (bwd c 14) 0).view.set]{fullShare} (chunk outM (bwd c 14) 0).view.rep (reduced m (bwd c 14) 0))
        ∗ (cellInv ER (sched m) (K (dmaCell c agR 0 14)) (dmaCell c agR 0 14) ∗ atPos ER (dmaCell c agR 0 14) 1 ∅ 0)
        ∗ ((chunk outM (bwd c 15) 0).view.loc (c : Thread nD τ) ↦[(chunk outM (bwd c 15) 0).view.set]{fullShare} (chunk outM (bwd c 15) 0).view.rep (reduced m (bwd c 15) 0))
        ∗ (cellInv ER (sched m) (K (dmaCell c agR 0 15)) (dmaCell c agR 0 15) ∗ atPos ER (dmaCell c agR 0 15) 1 ∅ 0)
        ∗ owes (c : Thread nD τ) (owedAfter c 155) (insert (SemLoc.dma (semAt (arr agR) 0 15), ()) (insert (SemLoc.dma (semAt (arr agR) 0 14), ()) (insert (SemLoc.dma (semAt (arr agR) 0 13), ()) (W))))) -∗ Q r))
      ⊢ wp frame (wpE (defs₀ (F := F)) 𝒱₀ c none) Set.univ (k0_part114 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold recvRes
  iintro ⟨⟨#IagR0_13, AagR0_13, CagR0_13⟩, ⟨#IagR0_14, AagR0_14, CagR0_14⟩, ⟨#IagR0_15, AagR0_15, CagR0_15⟩, #Hlev, HO, Hk⟩
  have hmwagR0_13 := mayWait_end (F := F) c (.dma (semAt (arr agR) 0 13))
  have hmwagR0_14 := mayWait_end (F := F) c (.dma (semAt (arr agR) 0 14))
  have hmwagR0_15 := mayWait_end (F := F) c (.dma (semAt (arr agR) 0 15))
  sl_exec_parts
  sl_step
  iapply Hk
  isplitl [AagR0_13_pay1]; · iexact AagR0_13_pay1
  isplitl [AagR0_13]; · (isplitr; · iexact IagR0_13); iexact AagR0_13
  isplitl [AagR0_14_pay1]; · iexact AagR0_14_pay1
  isplitl [AagR0_14]; · (isplitr; · iexact IagR0_14); iexact AagR0_14
  isplitl [AagR0_15_pay1]; · iexact AagR0_15_pay1
  isplitl [AagR0_15]; · (isplitr; · iexact IagR0_15); iexact AagR0_15
  iexact HO

attribute [local sl_rounds] duties_dma amount_dma expect_dma pay_agR in
set_option maxHeartbeats 4000000 in
theorem part115_spec (c : Dev nD) (v2 : BitVec 32) (v2850 : BitVec 32) (c32_i32_3647 : BitVec 32) (W : Waits sig Unit) (Q : (Σ' (v2873 : BitVec 32), BitVec 32) → sProp 𝕄) :
    iprop(recvRes m K agR c 0 16
      ∗ recvRes m K agR c 0 17
      ∗ levAts L lv
      ∗ owes (c : Thread nD τ) (owedAfter c 155) W
      ∗ (∀ r, (((chunk outM (bwd c 16) 0).view.loc (c : Thread nD τ) ↦[(chunk outM (bwd c 16) 0).view.set]{fullShare} (chunk outM (bwd c 16) 0).view.rep (reduced m (bwd c 16) 0))
        ∗ (cellInv ER (sched m) (K (dmaCell c agR 0 16)) (dmaCell c agR 0 16) ∗ atPos ER (dmaCell c agR 0 16) 1 ∅ 0)
        ∗ ((chunk outM (bwd c 17) 0).view.loc (c : Thread nD τ) ↦[(chunk outM (bwd c 17) 0).view.set]{fullShare} (chunk outM (bwd c 17) 0).view.rep (reduced m (bwd c 17) 0))
        ∗ (cellInv ER (sched m) (K (dmaCell c agR 0 17)) (dmaCell c agR 0 17) ∗ atPos ER (dmaCell c agR 0 17) 1 ∅ 0)
        ∗ owes (c : Thread nD τ) (owedAfter c 155) (insert (SemLoc.dma (semAt (arr agR) 0 17), ()) (insert (SemLoc.dma (semAt (arr agR) 0 16), ()) (W)))) -∗ Q r))
      ⊢ wp frame (wpE (defs₀ (F := F)) 𝒱₀ c none) Set.univ (k0_part115 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2850 c32_i32_3647) Q := by
  unfold recvRes
  iintro ⟨⟨#IagR0_16, AagR0_16, CagR0_16⟩, ⟨#IagR0_17, AagR0_17, CagR0_17⟩, #Hlev, HO, Hk⟩
  have hmwagR0_16 := mayWait_end (F := F) c (.dma (semAt (arr agR) 0 16))
  have hmwagR0_17 := mayWait_end (F := F) c (.dma (semAt (arr agR) 0 17))
  sl_exec_parts
  sl_step
  iapply Hk
  isplitl [AagR0_16_pay1]; · iexact AagR0_16_pay1
  isplitl [AagR0_16]; · (isplitr; · iexact IagR0_16); iexact AagR0_16
  isplitl [AagR0_17_pay1]; · iexact AagR0_17_pay1
  isplitl [AagR0_17]; · (isplitr; · iexact IagR0_17); iexact AagR0_17
  iexact HO

attribute [local sl_rounds] duties_dma amount_dma expect_dma pay_agR in
set_option maxHeartbeats 4000000 in
theorem part116_spec (c : Dev nD) (v2 : BitVec 32) (v2873 : BitVec 32) (c1_i32_3680 : BitVec 32) (W : Waits sig Unit) (Q : (PUnit) → sProp 𝕄) :
    iprop(recvRes m K agR c 0 18
      ∗ recvRes m K agR c 0 19
      ∗ recvRes m K agR c 0 20
      ∗ levAts L lv
      ∗ owes (c : Thread nD τ) (owedAfter c 155) W
      ∗ (∀ r, (((chunk outM (bwd c 18) 0).view.loc (c : Thread nD τ) ↦[(chunk outM (bwd c 18) 0).view.set]{fullShare} (chunk outM (bwd c 18) 0).view.rep (reduced m (bwd c 18) 0))
        ∗ (cellInv ER (sched m) (K (dmaCell c agR 0 18)) (dmaCell c agR 0 18) ∗ atPos ER (dmaCell c agR 0 18) 1 ∅ 0)
        ∗ ((chunk outM (bwd c 19) 0).view.loc (c : Thread nD τ) ↦[(chunk outM (bwd c 19) 0).view.set]{fullShare} (chunk outM (bwd c 19) 0).view.rep (reduced m (bwd c 19) 0))
        ∗ (cellInv ER (sched m) (K (dmaCell c agR 0 19)) (dmaCell c agR 0 19) ∗ atPos ER (dmaCell c agR 0 19) 1 ∅ 0)
        ∗ ((chunk outM (bwd c 20) 0).view.loc (c : Thread nD τ) ↦[(chunk outM (bwd c 20) 0).view.set]{fullShare} (chunk outM (bwd c 20) 0).view.rep (reduced m (bwd c 20) 0))
        ∗ (cellInv ER (sched m) (K (dmaCell c agR 0 20)) (dmaCell c agR 0 20) ∗ atPos ER (dmaCell c agR 0 20) 1 ∅ 0)
        ∗ owes (c : Thread nD τ) (owedAfter c 155) (insert (SemLoc.dma (semAt (arr agR) 0 20), ()) (insert (SemLoc.dma (semAt (arr agR) 0 19), ()) (insert (SemLoc.dma (semAt (arr agR) 0 18), ()) (W))))) -∗ Q r))
      ⊢ wp frame (wpE (defs₀ (F := F)) 𝒱₀ c none) Set.univ (k0_part116 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2873 c1_i32_3680) Q := by
  unfold recvRes
  iintro ⟨⟨#IagR0_18, AagR0_18, CagR0_18⟩, ⟨#IagR0_19, AagR0_19, CagR0_19⟩, ⟨#IagR0_20, AagR0_20, CagR0_20⟩, #Hlev, HO, Hk⟩
  have hmwagR0_18 := mayWait_end (F := F) c (.dma (semAt (arr agR) 0 18))
  have hmwagR0_19 := mayWait_end (F := F) c (.dma (semAt (arr agR) 0 19))
  have hmwagR0_20 := mayWait_end (F := F) c (.dma (semAt (arr agR) 0 20))
  sl_exec_parts
  sl_step
  iapply Hk
  isplitl [AagR0_18_pay1]; · iexact AagR0_18_pay1
  isplitl [AagR0_18]; · (isplitr; · iexact IagR0_18); iexact AagR0_18
  isplitl [AagR0_19_pay1]; · iexact AagR0_19_pay1
  isplitl [AagR0_19]; · (isplitr; · iexact IagR0_19); iexact AagR0_19
  isplitl [AagR0_20_pay1]; · iexact AagR0_20_pay1
  isplitl [AagR0_20]; · (isplitr; · iexact IagR0_20); iexact AagR0_20
  iexact HO

attribute [local sl_rounds] duties_dma amount_dma expect_dma pay_agR in
set_option maxHeartbeats 4000000 in
theorem part117_spec (c : Dev nD) (v2 : BitVec 32) (W : Waits sig Unit) (Q : (BitVec 32) → sProp 𝕄) :
    iprop(recvRes m K agR c 0 21
      ∗ recvRes m K agR c 0 22
      ∗ levAts L lv
      ∗ owes (c : Thread nD τ) (owedAfter c 155) W
      ∗ (∀ r, (((chunk outM (bwd c 21) 0).view.loc (c : Thread nD τ) ↦[(chunk outM (bwd c 21) 0).view.set]{fullShare} (chunk outM (bwd c 21) 0).view.rep (reduced m (bwd c 21) 0))
        ∗ (cellInv ER (sched m) (K (dmaCell c agR 0 21)) (dmaCell c agR 0 21) ∗ atPos ER (dmaCell c agR 0 21) 1 ∅ 0)
        ∗ ((chunk outM (bwd c 22) 0).view.loc (c : Thread nD τ) ↦[(chunk outM (bwd c 22) 0).view.set]{fullShare} (chunk outM (bwd c 22) 0).view.rep (reduced m (bwd c 22) 0))
        ∗ (cellInv ER (sched m) (K (dmaCell c agR 0 22)) (dmaCell c agR 0 22) ∗ atPos ER (dmaCell c agR 0 22) 1 ∅ 0)
        ∗ owes (c : Thread nD τ) (owedAfter c 155) (insert (SemLoc.dma (semAt (arr agR) 0 22), ()) (insert (SemLoc.dma (semAt (arr agR) 0 21), ()) (W)))) -∗ Q r))
      ⊢ wp frame (wpE (defs₀ (F := F)) 𝒱₀ c none) Set.univ (k0_part117 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold recvRes
  iintro ⟨⟨#IagR0_21, AagR0_21, CagR0_21⟩, ⟨#IagR0_22, AagR0_22, CagR0_22⟩, #Hlev, HO, Hk⟩
  have hmwagR0_21 := mayWait_end (F := F) c (.dma (semAt (arr agR) 0 21))
  have hmwagR0_22 := mayWait_end (F := F) c (.dma (semAt (arr agR) 0 22))
  sl_exec_parts
  sl_step
  iapply Hk
  isplitl [AagR0_21_pay1]; · iexact AagR0_21_pay1
  isplitl [AagR0_21]; · (isplitr; · iexact IagR0_21); iexact AagR0_21
  isplitl [AagR0_22_pay1]; · iexact AagR0_22_pay1
  isplitl [AagR0_22]; · (isplitr; · iexact IagR0_22); iexact AagR0_22
  iexact HO

attribute [local sl_rounds] duties_dma amount_dma expect_dma pay_agR in
set_option maxHeartbeats 4000000 in
theorem part118_spec (c : Dev nD) (v2 : BitVec 32) (v2928 : BitVec 32) (W : Waits sig Unit) (Q : (PUnit) → sProp 𝕄) :
    iprop(recvRes m K agR c 0 23
      ∗ recvRes m K agR c 0 24
      ∗ levAts L lv
      ∗ owes (c : Thread nD τ) (owedAfter c 155) W
      ∗ (∀ r, (((chunk outM (bwd c 23) 0).view.loc (c : Thread nD τ) ↦[(chunk outM (bwd c 23) 0).view.set]{fullShare} (chunk outM (bwd c 23) 0).view.rep (reduced m (bwd c 23) 0))
        ∗ (cellInv ER (sched m) (K (dmaCell c agR 0 23)) (dmaCell c agR 0 23) ∗ atPos ER (dmaCell c agR 0 23) 1 ∅ 0)
        ∗ ((chunk outM (bwd c 24) 0).view.loc (c : Thread nD τ) ↦[(chunk outM (bwd c 24) 0).view.set]{fullShare} (chunk outM (bwd c 24) 0).view.rep (reduced m (bwd c 24) 0))
        ∗ (cellInv ER (sched m) (K (dmaCell c agR 0 24)) (dmaCell c agR 0 24) ∗ atPos ER (dmaCell c agR 0 24) 1 ∅ 0)
        ∗ owes (c : Thread nD τ) (owedAfter c 155) (insert (SemLoc.dma (semAt (arr agR) 0 24), ()) (insert (SemLoc.dma (semAt (arr agR) 0 23), ()) (W)))) -∗ Q r))
      ⊢ wp frame (wpE (defs₀ (F := F)) 𝒱₀ c none) Set.univ (k0_part118 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2928) Q := by
  unfold recvRes
  iintro ⟨⟨#IagR0_23, AagR0_23, CagR0_23⟩, ⟨#IagR0_24, AagR0_24, CagR0_24⟩, #Hlev, HO, Hk⟩
  have hmwagR0_23 := mayWait_end (F := F) c (.dma (semAt (arr agR) 0 23))
  have hmwagR0_24 := mayWait_end (F := F) c (.dma (semAt (arr agR) 0 24))
  sl_exec_parts
  sl_step
  iapply Hk
  isplitl [AagR0_23_pay1]; · iexact AagR0_23_pay1
  isplitl [AagR0_23]; · (isplitr; · iexact IagR0_23); iexact AagR0_23
  isplitl [AagR0_24_pay1]; · iexact AagR0_24_pay1
  isplitl [AagR0_24]; · (isplitr; · iexact IagR0_24); iexact AagR0_24
  iexact HO

attribute [local sl_rounds] duties_dma amount_dma expect_dma pay_agR in
set_option maxHeartbeats 4000000 in
theorem part119_spec (c : Dev nD) (v2 : BitVec 32) (W : Waits sig Unit) (Q : (Σ' (v2982 : BitVec 32), BitVec 32) → sProp 𝕄) :
    iprop(recvRes m K agR c 0 25
      ∗ recvRes m K agR c 0 26
      ∗ recvRes m K agR c 0 27
      ∗ levAts L lv
      ∗ owes (c : Thread nD τ) (owedAfter c 155) W
      ∗ (∀ r, (((chunk outM (bwd c 25) 0).view.loc (c : Thread nD τ) ↦[(chunk outM (bwd c 25) 0).view.set]{fullShare} (chunk outM (bwd c 25) 0).view.rep (reduced m (bwd c 25) 0))
        ∗ (cellInv ER (sched m) (K (dmaCell c agR 0 25)) (dmaCell c agR 0 25) ∗ atPos ER (dmaCell c agR 0 25) 1 ∅ 0)
        ∗ ((chunk outM (bwd c 26) 0).view.loc (c : Thread nD τ) ↦[(chunk outM (bwd c 26) 0).view.set]{fullShare} (chunk outM (bwd c 26) 0).view.rep (reduced m (bwd c 26) 0))
        ∗ (cellInv ER (sched m) (K (dmaCell c agR 0 26)) (dmaCell c agR 0 26) ∗ atPos ER (dmaCell c agR 0 26) 1 ∅ 0)
        ∗ ((chunk outM (bwd c 27) 0).view.loc (c : Thread nD τ) ↦[(chunk outM (bwd c 27) 0).view.set]{fullShare} (chunk outM (bwd c 27) 0).view.rep (reduced m (bwd c 27) 0))
        ∗ (cellInv ER (sched m) (K (dmaCell c agR 0 27)) (dmaCell c agR 0 27) ∗ atPos ER (dmaCell c agR 0 27) 1 ∅ 0)
        ∗ owes (c : Thread nD τ) (owedAfter c 155) (insert (SemLoc.dma (semAt (arr agR) 0 27), ()) (insert (SemLoc.dma (semAt (arr agR) 0 26), ()) (insert (SemLoc.dma (semAt (arr agR) 0 25), ()) (W))))) -∗ Q r))
      ⊢ wp frame (wpE (defs₀ (F := F)) 𝒱₀ c none) Set.univ (k0_part119 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold recvRes
  iintro ⟨⟨#IagR0_25, AagR0_25, CagR0_25⟩, ⟨#IagR0_26, AagR0_26, CagR0_26⟩, ⟨#IagR0_27, AagR0_27, CagR0_27⟩, #Hlev, HO, Hk⟩
  have hmwagR0_25 := mayWait_end (F := F) c (.dma (semAt (arr agR) 0 25))
  have hmwagR0_26 := mayWait_end (F := F) c (.dma (semAt (arr agR) 0 26))
  have hmwagR0_27 := mayWait_end (F := F) c (.dma (semAt (arr agR) 0 27))
  sl_exec_parts
  sl_step
  iapply Hk
  isplitl [AagR0_25_pay1]; · iexact AagR0_25_pay1
  isplitl [AagR0_25]; · (isplitr; · iexact IagR0_25); iexact AagR0_25
  isplitl [AagR0_26_pay1]; · iexact AagR0_26_pay1
  isplitl [AagR0_26]; · (isplitr; · iexact IagR0_26); iexact AagR0_26
  isplitl [AagR0_27_pay1]; · iexact AagR0_27_pay1
  isplitl [AagR0_27]; · (isplitr; · iexact IagR0_27); iexact AagR0_27
  iexact HO

attribute [local sl_rounds] duties_dma amount_dma expect_dma pay_agR in
set_option maxHeartbeats 4000000 in
theorem part120_spec (c : Dev nD) (v2 : BitVec 32) (v2982 : BitVec 32) (c32_i32_3803 : BitVec 32) (W : Waits sig Unit) (Q : (Σ' (v3005 : BitVec 32), BitVec 32) → sProp 𝕄) :
    iprop(recvRes m K agR c 0 28
      ∗ recvRes m K agR c 0 29
      ∗ levAts L lv
      ∗ owes (c : Thread nD τ) (owedAfter c 155) W
      ∗ (∀ r, (((chunk outM (bwd c 28) 0).view.loc (c : Thread nD τ) ↦[(chunk outM (bwd c 28) 0).view.set]{fullShare} (chunk outM (bwd c 28) 0).view.rep (reduced m (bwd c 28) 0))
        ∗ (cellInv ER (sched m) (K (dmaCell c agR 0 28)) (dmaCell c agR 0 28) ∗ atPos ER (dmaCell c agR 0 28) 1 ∅ 0)
        ∗ ((chunk outM (bwd c 29) 0).view.loc (c : Thread nD τ) ↦[(chunk outM (bwd c 29) 0).view.set]{fullShare} (chunk outM (bwd c 29) 0).view.rep (reduced m (bwd c 29) 0))
        ∗ (cellInv ER (sched m) (K (dmaCell c agR 0 29)) (dmaCell c agR 0 29) ∗ atPos ER (dmaCell c agR 0 29) 1 ∅ 0)
        ∗ owes (c : Thread nD τ) (owedAfter c 155) (insert (SemLoc.dma (semAt (arr agR) 0 29), ()) (insert (SemLoc.dma (semAt (arr agR) 0 28), ()) (W)))) -∗ Q r))
      ⊢ wp frame (wpE (defs₀ (F := F)) 𝒱₀ c none) Set.univ (k0_part120 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2982 c32_i32_3803) Q := by
  unfold recvRes
  iintro ⟨⟨#IagR0_28, AagR0_28, CagR0_28⟩, ⟨#IagR0_29, AagR0_29, CagR0_29⟩, #Hlev, HO, Hk⟩
  have hmwagR0_28 := mayWait_end (F := F) c (.dma (semAt (arr agR) 0 28))
  have hmwagR0_29 := mayWait_end (F := F) c (.dma (semAt (arr agR) 0 29))
  sl_exec_parts
  sl_step
  iapply Hk
  isplitl [AagR0_28_pay1]; · iexact AagR0_28_pay1
  isplitl [AagR0_28]; · (isplitr; · iexact IagR0_28); iexact AagR0_28
  isplitl [AagR0_29_pay1]; · iexact AagR0_29_pay1
  isplitl [AagR0_29]; · (isplitr; · iexact IagR0_29); iexact AagR0_29
  iexact HO

attribute [local sl_rounds] duties_dma amount_dma expect_dma pay_agR in
set_option maxHeartbeats 4000000 in
theorem part122_spec (c : Dev nD) (v2 : BitVec 32) (v3033 : BitVec 32) (c0_i32_3867 : BitVec 32) (W : Waits sig Unit) (Q : (BitVec 32) → sProp 𝕄) :
    iprop(recvRes m K agR c 1 1
      ∗ recvRes m K agR c 1 2
      ∗ recvRes m K agR c 1 3
      ∗ levAts L lv
      ∗ owes (c : Thread nD τ) (owedAfter c 155) W
      ∗ (∀ r, (((chunk outM (bwd c 1) 1).view.loc (c : Thread nD τ) ↦[(chunk outM (bwd c 1) 1).view.set]{fullShare} (chunk outM (bwd c 1) 1).view.rep (reduced m (bwd c 1) 1))
        ∗ (cellInv ER (sched m) (K (dmaCell c agR 1 1)) (dmaCell c agR 1 1) ∗ atPos ER (dmaCell c agR 1 1) 1 ∅ 0)
        ∗ ((chunk outM (bwd c 2) 1).view.loc (c : Thread nD τ) ↦[(chunk outM (bwd c 2) 1).view.set]{fullShare} (chunk outM (bwd c 2) 1).view.rep (reduced m (bwd c 2) 1))
        ∗ (cellInv ER (sched m) (K (dmaCell c agR 1 2)) (dmaCell c agR 1 2) ∗ atPos ER (dmaCell c agR 1 2) 1 ∅ 0)
        ∗ ((chunk outM (bwd c 3) 1).view.loc (c : Thread nD τ) ↦[(chunk outM (bwd c 3) 1).view.set]{fullShare} (chunk outM (bwd c 3) 1).view.rep (reduced m (bwd c 3) 1))
        ∗ (cellInv ER (sched m) (K (dmaCell c agR 1 3)) (dmaCell c agR 1 3) ∗ atPos ER (dmaCell c agR 1 3) 1 ∅ 0)
        ∗ owes (c : Thread nD τ) (owedAfter c 155) (insert (SemLoc.dma (semAt (arr agR) 1 3), ()) (insert (SemLoc.dma (semAt (arr agR) 1 2), ()) (insert (SemLoc.dma (semAt (arr agR) 1 1), ()) (W))))) -∗ Q r))
      ⊢ wp frame (wpE (defs₀ (F := F)) 𝒱₀ c none) Set.univ (k0_part122 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3033 c0_i32_3867) Q := by
  unfold recvRes
  iintro ⟨⟨#IagR1_1, AagR1_1, CagR1_1⟩, ⟨#IagR1_2, AagR1_2, CagR1_2⟩, ⟨#IagR1_3, AagR1_3, CagR1_3⟩, #Hlev, HO, Hk⟩
  have hmwagR1_1 := mayWait_end (F := F) c (.dma (semAt (arr agR) 1 1))
  have hmwagR1_2 := mayWait_end (F := F) c (.dma (semAt (arr agR) 1 2))
  have hmwagR1_3 := mayWait_end (F := F) c (.dma (semAt (arr agR) 1 3))
  sl_exec_parts
  sl_step
  iapply Hk
  isplitl [AagR1_1_pay1]; · iexact AagR1_1_pay1
  isplitl [AagR1_1]; · (isplitr; · iexact IagR1_1); iexact AagR1_1
  isplitl [AagR1_2_pay1]; · iexact AagR1_2_pay1
  isplitl [AagR1_2]; · (isplitr; · iexact IagR1_2); iexact AagR1_2
  isplitl [AagR1_3_pay1]; · iexact AagR1_3_pay1
  isplitl [AagR1_3]; · (isplitr; · iexact IagR1_3); iexact AagR1_3
  iexact HO

attribute [local sl_rounds] duties_dma amount_dma expect_dma pay_agR in
set_option maxHeartbeats 4000000 in
theorem part123_spec (c : Dev nD) (v2 : BitVec 32) (v3061 : BitVec 32) (W : Waits sig Unit) (Q : (BitVec 32) → sProp 𝕄) :
    iprop(recvRes m K agR c 1 4
      ∗ recvRes m K agR c 1 5
      ∗ levAts L lv
      ∗ owes (c : Thread nD τ) (owedAfter c 155) W
      ∗ (∀ r, (((chunk outM (bwd c 4) 1).view.loc (c : Thread nD τ) ↦[(chunk outM (bwd c 4) 1).view.set]{fullShare} (chunk outM (bwd c 4) 1).view.rep (reduced m (bwd c 4) 1))
        ∗ (cellInv ER (sched m) (K (dmaCell c agR 1 4)) (dmaCell c agR 1 4) ∗ atPos ER (dmaCell c agR 1 4) 1 ∅ 0)
        ∗ ((chunk outM (bwd c 5) 1).view.loc (c : Thread nD τ) ↦[(chunk outM (bwd c 5) 1).view.set]{fullShare} (chunk outM (bwd c 5) 1).view.rep (reduced m (bwd c 5) 1))
        ∗ (cellInv ER (sched m) (K (dmaCell c agR 1 5)) (dmaCell c agR 1 5) ∗ atPos ER (dmaCell c agR 1 5) 1 ∅ 0)
        ∗ owes (c : Thread nD τ) (owedAfter c 155) (insert (SemLoc.dma (semAt (arr agR) 1 5), ()) (insert (SemLoc.dma (semAt (arr agR) 1 4), ()) (W)))) -∗ Q r))
      ⊢ wp frame (wpE (defs₀ (F := F)) 𝒱₀ c none) Set.univ (k0_part123 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3061) Q := by
  unfold recvRes
  iintro ⟨⟨#IagR1_4, AagR1_4, CagR1_4⟩, ⟨#IagR1_5, AagR1_5, CagR1_5⟩, #Hlev, HO, Hk⟩
  have hmwagR1_4 := mayWait_end (F := F) c (.dma (semAt (arr agR) 1 4))
  have hmwagR1_5 := mayWait_end (F := F) c (.dma (semAt (arr agR) 1 5))
  sl_exec_parts
  sl_step
  iapply Hk
  isplitl [AagR1_4_pay1]; · iexact AagR1_4_pay1
  isplitl [AagR1_4]; · (isplitr; · iexact IagR1_4); iexact AagR1_4
  isplitl [AagR1_5_pay1]; · iexact AagR1_5_pay1
  isplitl [AagR1_5]; · (isplitr; · iexact IagR1_5); iexact AagR1_5
  iexact HO

attribute [local sl_rounds] duties_dma amount_dma expect_dma pay_agR in
set_option maxHeartbeats 4000000 in
theorem part124_spec (c : Dev nD) (v2 : BitVec 32) (v3085 : BitVec 32) (W : Waits sig Unit) (Q : (PUnit) → sProp 𝕄) :
    iprop(recvRes m K agR c 1 6
      ∗ recvRes m K agR c 1 7
      ∗ levAts L lv
      ∗ owes (c : Thread nD τ) (owedAfter c 155) W
      ∗ (∀ r, (((chunk outM (bwd c 6) 1).view.loc (c : Thread nD τ) ↦[(chunk outM (bwd c 6) 1).view.set]{fullShare} (chunk outM (bwd c 6) 1).view.rep (reduced m (bwd c 6) 1))
        ∗ (cellInv ER (sched m) (K (dmaCell c agR 1 6)) (dmaCell c agR 1 6) ∗ atPos ER (dmaCell c agR 1 6) 1 ∅ 0)
        ∗ ((chunk outM (bwd c 7) 1).view.loc (c : Thread nD τ) ↦[(chunk outM (bwd c 7) 1).view.set]{fullShare} (chunk outM (bwd c 7) 1).view.rep (reduced m (bwd c 7) 1))
        ∗ (cellInv ER (sched m) (K (dmaCell c agR 1 7)) (dmaCell c agR 1 7) ∗ atPos ER (dmaCell c agR 1 7) 1 ∅ 0)
        ∗ owes (c : Thread nD τ) (owedAfter c 155) (insert (SemLoc.dma (semAt (arr agR) 1 7), ()) (insert (SemLoc.dma (semAt (arr agR) 1 6), ()) (W)))) -∗ Q r))
      ⊢ wp frame (wpE (defs₀ (F := F)) 𝒱₀ c none) Set.univ (k0_part124 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3085) Q := by
  unfold recvRes
  iintro ⟨⟨#IagR1_6, AagR1_6, CagR1_6⟩, ⟨#IagR1_7, AagR1_7, CagR1_7⟩, #Hlev, HO, Hk⟩
  have hmwagR1_6 := mayWait_end (F := F) c (.dma (semAt (arr agR) 1 6))
  have hmwagR1_7 := mayWait_end (F := F) c (.dma (semAt (arr agR) 1 7))
  sl_exec_parts
  sl_step
  iapply Hk
  isplitl [AagR1_6_pay1]; · iexact AagR1_6_pay1
  isplitl [AagR1_6]; · (isplitr; · iexact IagR1_6); iexact AagR1_6
  isplitl [AagR1_7_pay1]; · iexact AagR1_7_pay1
  isplitl [AagR1_7]; · (isplitr; · iexact IagR1_7); iexact AagR1_7
  iexact HO

attribute [local sl_rounds] duties_dma amount_dma expect_dma pay_agR in
set_option maxHeartbeats 4000000 in
theorem part125_spec (c : Dev nD) (v2 : BitVec 32) (W : Waits sig Unit) (Q : (Σ' (v3140 : BitVec 32), BitVec 32) → sProp 𝕄) :
    iprop(recvRes m K agR c 1 8
      ∗ recvRes m K agR c 1 9
      ∗ recvRes m K agR c 1 10
      ∗ levAts L lv
      ∗ owes (c : Thread nD τ) (owedAfter c 155) W
      ∗ (∀ r, (((chunk outM (bwd c 8) 1).view.loc (c : Thread nD τ) ↦[(chunk outM (bwd c 8) 1).view.set]{fullShare} (chunk outM (bwd c 8) 1).view.rep (reduced m (bwd c 8) 1))
        ∗ (cellInv ER (sched m) (K (dmaCell c agR 1 8)) (dmaCell c agR 1 8) ∗ atPos ER (dmaCell c agR 1 8) 1 ∅ 0)
        ∗ ((chunk outM (bwd c 9) 1).view.loc (c : Thread nD τ) ↦[(chunk outM (bwd c 9) 1).view.set]{fullShare} (chunk outM (bwd c 9) 1).view.rep (reduced m (bwd c 9) 1))
        ∗ (cellInv ER (sched m) (K (dmaCell c agR 1 9)) (dmaCell c agR 1 9) ∗ atPos ER (dmaCell c agR 1 9) 1 ∅ 0)
        ∗ ((chunk outM (bwd c 10) 1).view.loc (c : Thread nD τ) ↦[(chunk outM (bwd c 10) 1).view.set]{fullShare} (chunk outM (bwd c 10) 1).view.rep (reduced m (bwd c 10) 1))
        ∗ (cellInv ER (sched m) (K (dmaCell c agR 1 10)) (dmaCell c agR 1 10) ∗ atPos ER (dmaCell c agR 1 10) 1 ∅ 0)
        ∗ owes (c : Thread nD τ) (owedAfter c 155) (insert (SemLoc.dma (semAt (arr agR) 1 10), ()) (insert (SemLoc.dma (semAt (arr agR) 1 9), ()) (insert (SemLoc.dma (semAt (arr agR) 1 8), ()) (W))))) -∗ Q r))
      ⊢ wp frame (wpE (defs₀ (F := F)) 𝒱₀ c none) Set.univ (k0_part125 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold recvRes
  iintro ⟨⟨#IagR1_8, AagR1_8, CagR1_8⟩, ⟨#IagR1_9, AagR1_9, CagR1_9⟩, ⟨#IagR1_10, AagR1_10, CagR1_10⟩, #Hlev, HO, Hk⟩
  have hmwagR1_8 := mayWait_end (F := F) c (.dma (semAt (arr agR) 1 8))
  have hmwagR1_9 := mayWait_end (F := F) c (.dma (semAt (arr agR) 1 9))
  have hmwagR1_10 := mayWait_end (F := F) c (.dma (semAt (arr agR) 1 10))
  sl_exec_parts
  sl_step
  iapply Hk
  isplitl [AagR1_8_pay1]; · iexact AagR1_8_pay1
  isplitl [AagR1_8]; · (isplitr; · iexact IagR1_8); iexact AagR1_8
  isplitl [AagR1_9_pay1]; · iexact AagR1_9_pay1
  isplitl [AagR1_9]; · (isplitr; · iexact IagR1_9); iexact AagR1_9
  isplitl [AagR1_10_pay1]; · iexact AagR1_10_pay1
  isplitl [AagR1_10]; · (isplitr; · iexact IagR1_10); iexact AagR1_10
  iexact HO

attribute [local sl_rounds] duties_dma amount_dma expect_dma pay_agR in
set_option maxHeartbeats 4000000 in
theorem part126_spec (c : Dev nD) (v2 : BitVec 32) (v3140 : BitVec 32) (c32_i32_3990 : BitVec 32) (W : Waits sig Unit) (Q : (Σ' (v3165 : BitVec 32), BitVec 32) → sProp 𝕄) :
    iprop(recvRes m K agR c 1 11
      ∗ recvRes m K agR c 1 12
      ∗ levAts L lv
      ∗ owes (c : Thread nD τ) (owedAfter c 155) W
      ∗ (∀ r, (((chunk outM (bwd c 11) 1).view.loc (c : Thread nD τ) ↦[(chunk outM (bwd c 11) 1).view.set]{fullShare} (chunk outM (bwd c 11) 1).view.rep (reduced m (bwd c 11) 1))
        ∗ (cellInv ER (sched m) (K (dmaCell c agR 1 11)) (dmaCell c agR 1 11) ∗ atPos ER (dmaCell c agR 1 11) 1 ∅ 0)
        ∗ ((chunk outM (bwd c 12) 1).view.loc (c : Thread nD τ) ↦[(chunk outM (bwd c 12) 1).view.set]{fullShare} (chunk outM (bwd c 12) 1).view.rep (reduced m (bwd c 12) 1))
        ∗ (cellInv ER (sched m) (K (dmaCell c agR 1 12)) (dmaCell c agR 1 12) ∗ atPos ER (dmaCell c agR 1 12) 1 ∅ 0)
        ∗ owes (c : Thread nD τ) (owedAfter c 155) (insert (SemLoc.dma (semAt (arr agR) 1 12), ()) (insert (SemLoc.dma (semAt (arr agR) 1 11), ()) (W)))) -∗ Q r))
      ⊢ wp frame (wpE (defs₀ (F := F)) 𝒱₀ c none) Set.univ (k0_part126 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3140 c32_i32_3990) Q := by
  unfold recvRes
  iintro ⟨⟨#IagR1_11, AagR1_11, CagR1_11⟩, ⟨#IagR1_12, AagR1_12, CagR1_12⟩, #Hlev, HO, Hk⟩
  have hmwagR1_11 := mayWait_end (F := F) c (.dma (semAt (arr agR) 1 11))
  have hmwagR1_12 := mayWait_end (F := F) c (.dma (semAt (arr agR) 1 12))
  sl_exec_parts
  sl_step
  iapply Hk
  isplitl [AagR1_11_pay1]; · iexact AagR1_11_pay1
  isplitl [AagR1_11]; · (isplitr; · iexact IagR1_11); iexact AagR1_11
  isplitl [AagR1_12_pay1]; · iexact AagR1_12_pay1
  isplitl [AagR1_12]; · (isplitr; · iexact IagR1_12); iexact AagR1_12
  iexact HO

attribute [local sl_rounds] duties_dma amount_dma expect_dma pay_agR in
set_option maxHeartbeats 4000000 in
theorem part127_spec (c : Dev nD) (v2 : BitVec 32) (v3165 : BitVec 32) (c0_i32_4023 : BitVec 32) (W : Waits sig Unit) (Q : (BitVec 32) → sProp 𝕄) :
    iprop(recvRes m K agR c 1 13
      ∗ recvRes m K agR c 1 14
      ∗ recvRes m K agR c 1 15
      ∗ levAts L lv
      ∗ owes (c : Thread nD τ) (owedAfter c 155) W
      ∗ (∀ r, (((chunk outM (bwd c 13) 1).view.loc (c : Thread nD τ) ↦[(chunk outM (bwd c 13) 1).view.set]{fullShare} (chunk outM (bwd c 13) 1).view.rep (reduced m (bwd c 13) 1))
        ∗ (cellInv ER (sched m) (K (dmaCell c agR 1 13)) (dmaCell c agR 1 13) ∗ atPos ER (dmaCell c agR 1 13) 1 ∅ 0)
        ∗ ((chunk outM (bwd c 14) 1).view.loc (c : Thread nD τ) ↦[(chunk outM (bwd c 14) 1).view.set]{fullShare} (chunk outM (bwd c 14) 1).view.rep (reduced m (bwd c 14) 1))
        ∗ (cellInv ER (sched m) (K (dmaCell c agR 1 14)) (dmaCell c agR 1 14) ∗ atPos ER (dmaCell c agR 1 14) 1 ∅ 0)
        ∗ ((chunk outM (bwd c 15) 1).view.loc (c : Thread nD τ) ↦[(chunk outM (bwd c 15) 1).view.set]{fullShare} (chunk outM (bwd c 15) 1).view.rep (reduced m (bwd c 15) 1))
        ∗ (cellInv ER (sched m) (K (dmaCell c agR 1 15)) (dmaCell c agR 1 15) ∗ atPos ER (dmaCell c agR 1 15) 1 ∅ 0)
        ∗ owes (c : Thread nD τ) (owedAfter c 155) (insert (SemLoc.dma (semAt (arr agR) 1 15), ()) (insert (SemLoc.dma (semAt (arr agR) 1 14), ()) (insert (SemLoc.dma (semAt (arr agR) 1 13), ()) (W))))) -∗ Q r))
      ⊢ wp frame (wpE (defs₀ (F := F)) 𝒱₀ c none) Set.univ (k0_part127 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3165 c0_i32_4023) Q := by
  unfold recvRes
  iintro ⟨⟨#IagR1_13, AagR1_13, CagR1_13⟩, ⟨#IagR1_14, AagR1_14, CagR1_14⟩, ⟨#IagR1_15, AagR1_15, CagR1_15⟩, #Hlev, HO, Hk⟩
  have hmwagR1_13 := mayWait_end (F := F) c (.dma (semAt (arr agR) 1 13))
  have hmwagR1_14 := mayWait_end (F := F) c (.dma (semAt (arr agR) 1 14))
  have hmwagR1_15 := mayWait_end (F := F) c (.dma (semAt (arr agR) 1 15))
  sl_exec_parts
  sl_step
  iapply Hk
  isplitl [AagR1_13_pay1]; · iexact AagR1_13_pay1
  isplitl [AagR1_13]; · (isplitr; · iexact IagR1_13); iexact AagR1_13
  isplitl [AagR1_14_pay1]; · iexact AagR1_14_pay1
  isplitl [AagR1_14]; · (isplitr; · iexact IagR1_14); iexact AagR1_14
  isplitl [AagR1_15_pay1]; · iexact AagR1_15_pay1
  isplitl [AagR1_15]; · (isplitr; · iexact IagR1_15); iexact AagR1_15
  iexact HO

attribute [local sl_rounds] duties_dma amount_dma expect_dma pay_agR in
set_option maxHeartbeats 4000000 in
theorem part128_spec (c : Dev nD) (v2 : BitVec 32) (v3193 : BitVec 32) (W : Waits sig Unit) (Q : (BitVec 32) → sProp 𝕄) :
    iprop(recvRes m K agR c 1 16
      ∗ recvRes m K agR c 1 17
      ∗ levAts L lv
      ∗ owes (c : Thread nD τ) (owedAfter c 155) W
      ∗ (∀ r, (((chunk outM (bwd c 16) 1).view.loc (c : Thread nD τ) ↦[(chunk outM (bwd c 16) 1).view.set]{fullShare} (chunk outM (bwd c 16) 1).view.rep (reduced m (bwd c 16) 1))
        ∗ (cellInv ER (sched m) (K (dmaCell c agR 1 16)) (dmaCell c agR 1 16) ∗ atPos ER (dmaCell c agR 1 16) 1 ∅ 0)
        ∗ ((chunk outM (bwd c 17) 1).view.loc (c : Thread nD τ) ↦[(chunk outM (bwd c 17) 1).view.set]{fullShare} (chunk outM (bwd c 17) 1).view.rep (reduced m (bwd c 17) 1))
        ∗ (cellInv ER (sched m) (K (dmaCell c agR 1 17)) (dmaCell c agR 1 17) ∗ atPos ER (dmaCell c agR 1 17) 1 ∅ 0)
        ∗ owes (c : Thread nD τ) (owedAfter c 155) (insert (SemLoc.dma (semAt (arr agR) 1 17), ()) (insert (SemLoc.dma (semAt (arr agR) 1 16), ()) (W)))) -∗ Q r))
      ⊢ wp frame (wpE (defs₀ (F := F)) 𝒱₀ c none) Set.univ (k0_part128 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3193) Q := by
  unfold recvRes
  iintro ⟨⟨#IagR1_16, AagR1_16, CagR1_16⟩, ⟨#IagR1_17, AagR1_17, CagR1_17⟩, #Hlev, HO, Hk⟩
  have hmwagR1_16 := mayWait_end (F := F) c (.dma (semAt (arr agR) 1 16))
  have hmwagR1_17 := mayWait_end (F := F) c (.dma (semAt (arr agR) 1 17))
  sl_exec_parts
  sl_step
  iapply Hk
  isplitl [AagR1_16_pay1]; · iexact AagR1_16_pay1
  isplitl [AagR1_16]; · (isplitr; · iexact IagR1_16); iexact AagR1_16
  isplitl [AagR1_17_pay1]; · iexact AagR1_17_pay1
  isplitl [AagR1_17]; · (isplitr; · iexact IagR1_17); iexact AagR1_17
  iexact HO

attribute [local sl_rounds] duties_dma amount_dma expect_dma pay_agR in
set_option maxHeartbeats 4000000 in
theorem part129_spec (c : Dev nD) (v2 : BitVec 32) (v3217 : BitVec 32) (W : Waits sig Unit) (Q : (PUnit) → sProp 𝕄) :
    iprop(recvRes m K agR c 1 18
      ∗ recvRes m K agR c 1 19
      ∗ levAts L lv
      ∗ owes (c : Thread nD τ) (owedAfter c 155) W
      ∗ (∀ r, (((chunk outM (bwd c 18) 1).view.loc (c : Thread nD τ) ↦[(chunk outM (bwd c 18) 1).view.set]{fullShare} (chunk outM (bwd c 18) 1).view.rep (reduced m (bwd c 18) 1))
        ∗ (cellInv ER (sched m) (K (dmaCell c agR 1 18)) (dmaCell c agR 1 18) ∗ atPos ER (dmaCell c agR 1 18) 1 ∅ 0)
        ∗ ((chunk outM (bwd c 19) 1).view.loc (c : Thread nD τ) ↦[(chunk outM (bwd c 19) 1).view.set]{fullShare} (chunk outM (bwd c 19) 1).view.rep (reduced m (bwd c 19) 1))
        ∗ (cellInv ER (sched m) (K (dmaCell c agR 1 19)) (dmaCell c agR 1 19) ∗ atPos ER (dmaCell c agR 1 19) 1 ∅ 0)
        ∗ owes (c : Thread nD τ) (owedAfter c 155) (insert (SemLoc.dma (semAt (arr agR) 1 19), ()) (insert (SemLoc.dma (semAt (arr agR) 1 18), ()) (W)))) -∗ Q r))
      ⊢ wp frame (wpE (defs₀ (F := F)) 𝒱₀ c none) Set.univ (k0_part129 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3217) Q := by
  unfold recvRes
  iintro ⟨⟨#IagR1_18, AagR1_18, CagR1_18⟩, ⟨#IagR1_19, AagR1_19, CagR1_19⟩, #Hlev, HO, Hk⟩
  have hmwagR1_18 := mayWait_end (F := F) c (.dma (semAt (arr agR) 1 18))
  have hmwagR1_19 := mayWait_end (F := F) c (.dma (semAt (arr agR) 1 19))
  sl_exec_parts
  sl_step
  iapply Hk
  isplitl [AagR1_18_pay1]; · iexact AagR1_18_pay1
  isplitl [AagR1_18]; · (isplitr; · iexact IagR1_18); iexact AagR1_18
  isplitl [AagR1_19_pay1]; · iexact AagR1_19_pay1
  isplitl [AagR1_19]; · (isplitr; · iexact IagR1_19); iexact AagR1_19
  iexact HO

attribute [local sl_rounds] duties_dma amount_dma expect_dma pay_agR in
set_option maxHeartbeats 4000000 in
theorem part130_spec (c : Dev nD) (v2 : BitVec 32) (W : Waits sig Unit) (Q : (Σ' (v3272 : BitVec 32), BitVec 32) → sProp 𝕄) :
    iprop(recvRes m K agR c 1 20
      ∗ recvRes m K agR c 1 21
      ∗ recvRes m K agR c 1 22
      ∗ levAts L lv
      ∗ owes (c : Thread nD τ) (owedAfter c 155) W
      ∗ (∀ r, (((chunk outM (bwd c 20) 1).view.loc (c : Thread nD τ) ↦[(chunk outM (bwd c 20) 1).view.set]{fullShare} (chunk outM (bwd c 20) 1).view.rep (reduced m (bwd c 20) 1))
        ∗ (cellInv ER (sched m) (K (dmaCell c agR 1 20)) (dmaCell c agR 1 20) ∗ atPos ER (dmaCell c agR 1 20) 1 ∅ 0)
        ∗ ((chunk outM (bwd c 21) 1).view.loc (c : Thread nD τ) ↦[(chunk outM (bwd c 21) 1).view.set]{fullShare} (chunk outM (bwd c 21) 1).view.rep (reduced m (bwd c 21) 1))
        ∗ (cellInv ER (sched m) (K (dmaCell c agR 1 21)) (dmaCell c agR 1 21) ∗ atPos ER (dmaCell c agR 1 21) 1 ∅ 0)
        ∗ ((chunk outM (bwd c 22) 1).view.loc (c : Thread nD τ) ↦[(chunk outM (bwd c 22) 1).view.set]{fullShare} (chunk outM (bwd c 22) 1).view.rep (reduced m (bwd c 22) 1))
        ∗ (cellInv ER (sched m) (K (dmaCell c agR 1 22)) (dmaCell c agR 1 22) ∗ atPos ER (dmaCell c agR 1 22) 1 ∅ 0)
        ∗ owes (c : Thread nD τ) (owedAfter c 155) (insert (SemLoc.dma (semAt (arr agR) 1 22), ()) (insert (SemLoc.dma (semAt (arr agR) 1 21), ()) (insert (SemLoc.dma (semAt (arr agR) 1 20), ()) (W))))) -∗ Q r))
      ⊢ wp frame (wpE (defs₀ (F := F)) 𝒱₀ c none) Set.univ (k0_part130 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold recvRes
  iintro ⟨⟨#IagR1_20, AagR1_20, CagR1_20⟩, ⟨#IagR1_21, AagR1_21, CagR1_21⟩, ⟨#IagR1_22, AagR1_22, CagR1_22⟩, #Hlev, HO, Hk⟩
  have hmwagR1_20 := mayWait_end (F := F) c (.dma (semAt (arr agR) 1 20))
  have hmwagR1_21 := mayWait_end (F := F) c (.dma (semAt (arr agR) 1 21))
  have hmwagR1_22 := mayWait_end (F := F) c (.dma (semAt (arr agR) 1 22))
  sl_exec_parts
  sl_step
  iapply Hk
  isplitl [AagR1_20_pay1]; · iexact AagR1_20_pay1
  isplitl [AagR1_20]; · (isplitr; · iexact IagR1_20); iexact AagR1_20
  isplitl [AagR1_21_pay1]; · iexact AagR1_21_pay1
  isplitl [AagR1_21]; · (isplitr; · iexact IagR1_21); iexact AagR1_21
  isplitl [AagR1_22_pay1]; · iexact AagR1_22_pay1
  isplitl [AagR1_22]; · (isplitr; · iexact IagR1_22); iexact AagR1_22
  iexact HO

attribute [local sl_rounds] duties_dma amount_dma expect_dma pay_agR in
set_option maxHeartbeats 4000000 in
theorem part131_spec (c : Dev nD) (v2 : BitVec 32) (v3272 : BitVec 32) (c32_i32_4146 : BitVec 32) (W : Waits sig Unit) (Q : (Σ' (v3297 : BitVec 32), BitVec 32) → sProp 𝕄) :
    iprop(recvRes m K agR c 1 23
      ∗ recvRes m K agR c 1 24
      ∗ levAts L lv
      ∗ owes (c : Thread nD τ) (owedAfter c 155) W
      ∗ (∀ r, (((chunk outM (bwd c 23) 1).view.loc (c : Thread nD τ) ↦[(chunk outM (bwd c 23) 1).view.set]{fullShare} (chunk outM (bwd c 23) 1).view.rep (reduced m (bwd c 23) 1))
        ∗ (cellInv ER (sched m) (K (dmaCell c agR 1 23)) (dmaCell c agR 1 23) ∗ atPos ER (dmaCell c agR 1 23) 1 ∅ 0)
        ∗ ((chunk outM (bwd c 24) 1).view.loc (c : Thread nD τ) ↦[(chunk outM (bwd c 24) 1).view.set]{fullShare} (chunk outM (bwd c 24) 1).view.rep (reduced m (bwd c 24) 1))
        ∗ (cellInv ER (sched m) (K (dmaCell c agR 1 24)) (dmaCell c agR 1 24) ∗ atPos ER (dmaCell c agR 1 24) 1 ∅ 0)
        ∗ owes (c : Thread nD τ) (owedAfter c 155) (insert (SemLoc.dma (semAt (arr agR) 1 24), ()) (insert (SemLoc.dma (semAt (arr agR) 1 23), ()) (W)))) -∗ Q r))
      ⊢ wp frame (wpE (defs₀ (F := F)) 𝒱₀ c none) Set.univ (k0_part131 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3272 c32_i32_4146) Q := by
  unfold recvRes
  iintro ⟨⟨#IagR1_23, AagR1_23, CagR1_23⟩, ⟨#IagR1_24, AagR1_24, CagR1_24⟩, #Hlev, HO, Hk⟩
  have hmwagR1_23 := mayWait_end (F := F) c (.dma (semAt (arr agR) 1 23))
  have hmwagR1_24 := mayWait_end (F := F) c (.dma (semAt (arr agR) 1 24))
  sl_exec_parts
  sl_step
  iapply Hk
  isplitl [AagR1_23_pay1]; · iexact AagR1_23_pay1
  isplitl [AagR1_23]; · (isplitr; · iexact IagR1_23); iexact AagR1_23
  isplitl [AagR1_24_pay1]; · iexact AagR1_24_pay1
  isplitl [AagR1_24]; · (isplitr; · iexact IagR1_24); iexact AagR1_24
  iexact HO

attribute [local sl_rounds] duties_dma amount_dma expect_dma pay_agR in
set_option maxHeartbeats 4000000 in
theorem part132_spec (c : Dev nD) (v2 : BitVec 32) (v3297 : BitVec 32) (c0_i32_4179 : BitVec 32) (W : Waits sig Unit) (Q : (BitVec 32) → sProp 𝕄) :
    iprop(recvRes m K agR c 1 25
      ∗ recvRes m K agR c 1 26
      ∗ recvRes m K agR c 1 27
      ∗ levAts L lv
      ∗ owes (c : Thread nD τ) (owedAfter c 155) W
      ∗ (∀ r, (((chunk outM (bwd c 25) 1).view.loc (c : Thread nD τ) ↦[(chunk outM (bwd c 25) 1).view.set]{fullShare} (chunk outM (bwd c 25) 1).view.rep (reduced m (bwd c 25) 1))
        ∗ (cellInv ER (sched m) (K (dmaCell c agR 1 25)) (dmaCell c agR 1 25) ∗ atPos ER (dmaCell c agR 1 25) 1 ∅ 0)
        ∗ ((chunk outM (bwd c 26) 1).view.loc (c : Thread nD τ) ↦[(chunk outM (bwd c 26) 1).view.set]{fullShare} (chunk outM (bwd c 26) 1).view.rep (reduced m (bwd c 26) 1))
        ∗ (cellInv ER (sched m) (K (dmaCell c agR 1 26)) (dmaCell c agR 1 26) ∗ atPos ER (dmaCell c agR 1 26) 1 ∅ 0)
        ∗ ((chunk outM (bwd c 27) 1).view.loc (c : Thread nD τ) ↦[(chunk outM (bwd c 27) 1).view.set]{fullShare} (chunk outM (bwd c 27) 1).view.rep (reduced m (bwd c 27) 1))
        ∗ (cellInv ER (sched m) (K (dmaCell c agR 1 27)) (dmaCell c agR 1 27) ∗ atPos ER (dmaCell c agR 1 27) 1 ∅ 0)
        ∗ owes (c : Thread nD τ) (owedAfter c 155) (insert (SemLoc.dma (semAt (arr agR) 1 27), ()) (insert (SemLoc.dma (semAt (arr agR) 1 26), ()) (insert (SemLoc.dma (semAt (arr agR) 1 25), ()) (W))))) -∗ Q r))
      ⊢ wp frame (wpE (defs₀ (F := F)) 𝒱₀ c none) Set.univ (k0_part132 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3297 c0_i32_4179) Q := by
  unfold recvRes
  iintro ⟨⟨#IagR1_25, AagR1_25, CagR1_25⟩, ⟨#IagR1_26, AagR1_26, CagR1_26⟩, ⟨#IagR1_27, AagR1_27, CagR1_27⟩, #Hlev, HO, Hk⟩
  have hmwagR1_25 := mayWait_end (F := F) c (.dma (semAt (arr agR) 1 25))
  have hmwagR1_26 := mayWait_end (F := F) c (.dma (semAt (arr agR) 1 26))
  have hmwagR1_27 := mayWait_end (F := F) c (.dma (semAt (arr agR) 1 27))
  sl_exec_parts
  sl_step
  iapply Hk
  isplitl [AagR1_25_pay1]; · iexact AagR1_25_pay1
  isplitl [AagR1_25]; · (isplitr; · iexact IagR1_25); iexact AagR1_25
  isplitl [AagR1_26_pay1]; · iexact AagR1_26_pay1
  isplitl [AagR1_26]; · (isplitr; · iexact IagR1_26); iexact AagR1_26
  isplitl [AagR1_27_pay1]; · iexact AagR1_27_pay1
  isplitl [AagR1_27]; · (isplitr; · iexact IagR1_27); iexact AagR1_27
  iexact HO

attribute [local sl_rounds] duties_dma amount_dma expect_dma pay_agR in
set_option maxHeartbeats 4000000 in
theorem part133_spec (c : Dev nD) (v2 : BitVec 32) (v3325 : BitVec 32) (W : Waits sig Unit) (Q : (BitVec 32) → sProp 𝕄) :
    iprop(recvRes m K agR c 1 28
      ∗ recvRes m K agR c 1 29
      ∗ levAts L lv
      ∗ owes (c : Thread nD τ) (owedAfter c 155) W
      ∗ (∀ r, (((chunk outM (bwd c 28) 1).view.loc (c : Thread nD τ) ↦[(chunk outM (bwd c 28) 1).view.set]{fullShare} (chunk outM (bwd c 28) 1).view.rep (reduced m (bwd c 28) 1))
        ∗ (cellInv ER (sched m) (K (dmaCell c agR 1 28)) (dmaCell c agR 1 28) ∗ atPos ER (dmaCell c agR 1 28) 1 ∅ 0)
        ∗ ((chunk outM (bwd c 29) 1).view.loc (c : Thread nD τ) ↦[(chunk outM (bwd c 29) 1).view.set]{fullShare} (chunk outM (bwd c 29) 1).view.rep (reduced m (bwd c 29) 1))
        ∗ (cellInv ER (sched m) (K (dmaCell c agR 1 29)) (dmaCell c agR 1 29) ∗ atPos ER (dmaCell c agR 1 29) 1 ∅ 0)
        ∗ owes (c : Thread nD τ) (owedAfter c 155) (insert (SemLoc.dma (semAt (arr agR) 1 29), ()) (insert (SemLoc.dma (semAt (arr agR) 1 28), ()) (W)))) -∗ Q r))
      ⊢ wp frame (wpE (defs₀ (F := F)) 𝒱₀ c none) Set.univ (k0_part133 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3325) Q := by
  unfold recvRes
  iintro ⟨⟨#IagR1_28, AagR1_28, CagR1_28⟩, ⟨#IagR1_29, AagR1_29, CagR1_29⟩, #Hlev, HO, Hk⟩
  have hmwagR1_28 := mayWait_end (F := F) c (.dma (semAt (arr agR) 1 28))
  have hmwagR1_29 := mayWait_end (F := F) c (.dma (semAt (arr agR) 1 29))
  sl_exec_parts
  sl_step
  iapply Hk
  isplitl [AagR1_28_pay1]; · iexact AagR1_28_pay1
  isplitl [AagR1_28]; · (isplitr; · iexact IagR1_28); iexact AagR1_28
  isplitl [AagR1_29_pay1]; · iexact AagR1_29_pay1
  isplitl [AagR1_29]; · (isplitr; · iexact IagR1_29); iexact AagR1_29
  iexact HO

end Cert.KernelIdeal.AllReduce

end
-- ==== Proof.BodyWaitsE.lean ====
/-
  The send waits of the gather phase: each hands back one share of the device's own finished rows.
  One statement per printed part of the kernel body, over the resources that part touches and nothing else.
-/
import proofs.«900438_g7700000000000439_dist_gemm_ar_m1024_k1024_n1024_f32_gelu_v7x_i32_1_alg».proof.Proof.BodyTables
noncomputable section
namespace Cert.KernelIdeal.AllReduce
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_agS in
set_option maxHeartbeats 4000000 in
theorem part135_spec (c : Dev nD)  (W : Waits sig Unit) (Q : (PUnit) → sProp 𝕄) :
    iprop(recvRes m K agS c 0 2
      ∗ recvRes m K agS c 0 3
      ∗ recvRes m K agS c 0 4
      ∗ recvRes m K agS c 0 5
      ∗ recvRes m K agS c 0 6
      ∗ levAts L lv
      ∗ owes (c : Thread nD τ) (owedAfter c 155) W
      ∗ (∀ r, (((chunk outM c 0).view.loc (c : Thread nD τ) ↦[(chunk outM c 0).view.set]{shr 2} (chunk outM c 0).view.rep (reduced m c 0))
        ∗ (cellInv ER (sched m) (K (dmaCell c agS 0 2)) (dmaCell c agS 0 2) ∗ atPos ER (dmaCell c agS 0 2) 1 ∅ 0)
        ∗ ((chunk outM c 0).view.loc (c : Thread nD τ) ↦[(chunk outM c 0).view.set]{shr 3} (chunk outM c 0).view.rep (reduced m c 0))
        ∗ (cellInv ER (sched m) (K (dmaCell c agS 0 3)) (dmaCell c agS 0 3) ∗ atPos ER (dmaCell c agS 0 3) 1 ∅ 0)
        ∗ ((chunk outM c 0).view.loc (c : Thread nD τ) ↦[(chunk outM c 0).view.set]{shr 4} (chunk outM c 0).view.rep (reduced m c 0))
        ∗ (cellInv ER (sched m) (K (dmaCell c agS 0 4)) (dmaCell c agS 0 4) ∗ atPos ER (dmaCell c agS 0 4) 1 ∅ 0)
        ∗ ((chunk outM c 0).view.loc (c : Thread nD τ) ↦[(chunk outM c 0).view.set]{shr 5} (chunk outM c 0).view.rep (reduced m c 0))
        ∗ (cellInv ER (sched m) (K (dmaCell c agS 0 5)) (dmaCell c agS 0 5) ∗ atPos ER (dmaCell c agS 0 5) 1 ∅ 0)
        ∗ ((chunk outM c 0).view.loc (c : Thread nD τ) ↦[(chunk outM c 0).view.set]{shr 6} (chunk outM c 0).view.rep (reduced m c 0))
        ∗ (cellInv ER (sched m) (K (dmaCell c agS 0 6)) (dmaCell c agS 0 6) ∗ atPos ER (dmaCell c agS 0 6) 1 ∅ 0)
        ∗ owes (c : Thread nD τ) (owedAfter c 155) (insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) (W))))))) -∗ Q r))
      ⊢ wp frame (wpE (defs₀ (F := F)) 𝒱₀ c none) Set.univ (k0_part135 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS0_2, AagS0_2, CagS0_2⟩, ⟨#IagS0_3, AagS0_3, CagS0_3⟩, ⟨#IagS0_4, AagS0_4, CagS0_4⟩, ⟨#IagS0_5, AagS0_5, CagS0_5⟩, ⟨#IagS0_6, AagS0_6, CagS0_6⟩, #Hlev, HO, Hk⟩
  have hmwagS0_2 := mayWait_end (F := F) c (.dma (semAt (arr agS) 0 2))
  have hmwagS0_3 := mayWait_end (F := F) c (.dma (semAt (arr agS) 0 3))
  have hmwagS0_4 := mayWait_end (F := F) c (.dma (semAt (arr agS) 0 4))
  have hmwagS0_5 := mayWait_end (F := F) c (.dma (semAt (arr agS) 0 5))
  have hmwagS0_6 := mayWait_end (F := F) c (.dma (semAt (arr agS) 0 6))
  sl_exec_parts
  sl_step
  iapply Hk
  isplitl [AagS0_2_pay1]; · iexact AagS0_2_pay1
  isplitl [AagS0_2]; · (isplitr; · iexact IagS0_2); iexact AagS0_2
  isplitl [AagS0_3_pay1]; · iexact AagS0_3_pay1
  isplitl [AagS0_3]; · (isplitr; · iexact IagS0_3); iexact AagS0_3
  isplitl [AagS0_4_pay1]; · iexact AagS0_4_pay1
  isplitl [AagS0_4]; · (isplitr; · iexact IagS0_4); iexact AagS0_4
  isplitl [AagS0_5_pay1]; · iexact AagS0_5_pay1
  isplitl [AagS0_5]; · (isplitr; · iexact IagS0_5); iexact AagS0_5
  isplitl [AagS0_6_pay1]; · iexact AagS0_6_pay1
  isplitl [AagS0_6]; · (isplitr; · iexact IagS0_6); iexact AagS0_6
  iexact HO

attribute [local sl_rounds] duties_dma amount_dma expect_dma pay_agS in
set_option maxHeartbeats 4000000 in
theorem part136_spec (c : Dev nD)  (W : Waits sig Unit) (Q : (PUnit) → sProp 𝕄) :
    iprop(recvRes m K agS c 0 7
      ∗ recvRes m K agS c 0 8
      ∗ recvRes m K agS c 0 9
      ∗ recvRes m K agS c 0 10
      ∗ recvRes m K agS c 0 11
      ∗ levAts L lv
      ∗ owes (c : Thread nD τ) (owedAfter c 155) W
      ∗ (∀ r, (((chunk outM c 0).view.loc (c : Thread nD τ) ↦[(chunk outM c 0).view.set]{shr 7} (chunk outM c 0).view.rep (reduced m c 0))
        ∗ (cellInv ER (sched m) (K (dmaCell c agS 0 7)) (dmaCell c agS 0 7) ∗ atPos ER (dmaCell c agS 0 7) 1 ∅ 0)
        ∗ ((chunk outM c 0).view.loc (c : Thread nD τ) ↦[(chunk outM c 0).view.set]{shr 8} (chunk outM c 0).view.rep (reduced m c 0))
        ∗ (cellInv ER (sched m) (K (dmaCell c agS 0 8)) (dmaCell c agS 0 8) ∗ atPos ER (dmaCell c agS 0 8) 1 ∅ 0)
        ∗ ((chunk outM c 0).view.loc (c : Thread nD τ) ↦[(chunk outM c 0).view.set]{shr 9} (chunk outM c 0).view.rep (reduced m c 0))
        ∗ (cellInv ER (sched m) (K (dmaCell c agS 0 9)) (dmaCell c agS 0 9) ∗ atPos ER (dmaCell c agS 0 9) 1 ∅ 0)
        ∗ ((chunk outM c 0).view.loc (c : Thread nD τ) ↦[(chunk outM c 0).view.set]{shr 10} (chunk outM c 0).view.rep (reduced m c 0))
        ∗ (cellInv ER (sched m) (K (dmaCell c agS 0 10)) (dmaCell c agS 0 10) ∗ atPos ER (dmaCell c agS 0 10) 1 ∅ 0)
        ∗ ((chunk outM c 0).view.loc (c : Thread nD τ) ↦[(chunk outM c 0).view.set]{shr 11} (chunk outM c 0).view.rep (reduced m c 0))
        ∗ (cellInv ER (sched m) (K (dmaCell c agS 0 11)) (dmaCell c agS 0 11) ∗ atPos ER (dmaCell c agS 0 11) 1 ∅ 0)
        ∗ owes (c : Thread nD τ) (owedAfter c 155) (insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) (W))))))) -∗ Q r))
      ⊢ wp frame (wpE (defs₀ (F := F)) 𝒱₀ c none) Set.univ (k0_part136 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS0_7, AagS0_7, CagS0_7⟩, ⟨#IagS0_8, AagS0_8, CagS0_8⟩, ⟨#IagS0_9, AagS0_9, CagS0_9⟩, ⟨#IagS0_10, AagS0_10, CagS0_10⟩, ⟨#IagS0_11, AagS0_11, CagS0_11⟩, #Hlev, HO, Hk⟩
  have hmwagS0_7 := mayWait_end (F := F) c (.dma (semAt (arr agS) 0 7))
  have hmwagS0_8 := mayWait_end (F := F) c (.dma (semAt (arr agS) 0 8))
  have hmwagS0_9 := mayWait_end (F := F) c (.dma (semAt (arr agS) 0 9))
  have hmwagS0_10 := mayWait_end (F := F) c (.dma (semAt (arr agS) 0 10))
  have hmwagS0_11 := mayWait_end (F := F) c (.dma (semAt (arr agS) 0 11))
  sl_exec_parts
  sl_step
  iapply Hk
  isplitl [AagS0_7_pay1]; · iexact AagS0_7_pay1
  isplitl [AagS0_7]; · (isplitr; · iexact IagS0_7); iexact AagS0_7
  isplitl [AagS0_8_pay1]; · iexact AagS0_8_pay1
  isplitl [AagS0_8]; · (isplitr; · iexact IagS0_8); iexact AagS0_8
  isplitl [AagS0_9_pay1]; · iexact AagS0_9_pay1
  isplitl [AagS0_9]; · (isplitr; · iexact IagS0_9); iexact AagS0_9
  isplitl [AagS0_10_pay1]; · iexact AagS0_10_pay1
  isplitl [AagS0_10]; · (isplitr; · iexact IagS0_10); iexact AagS0_10
  isplitl [AagS0_11_pay1]; · iexact AagS0_11_pay1
  isplitl [AagS0_11]; · (isplitr; · iexact IagS0_11); iexact AagS0_11
  iexact HO

attribute [local sl_rounds] duties_dma amount_dma expect_dma pay_agS in
set_option maxHeartbeats 4000000 in
theorem part137_spec (c : Dev nD)  (W : Waits sig Unit) (Q : (PUnit) → sProp 𝕄) :
    iprop(recvRes m K agS c 0 12
      ∗ recvRes m K agS c 0 13
      ∗ recvRes m K agS c 0 14
      ∗ recvRes m K agS c 0 15
      ∗ recvRes m K agS c 0 16
      ∗ levAts L lv
      ∗ owes (c : Thread nD τ) (owedAfter c 155) W
      ∗ (∀ r, (((chunk outM c 0).view.loc (c : Thread nD τ) ↦[(chunk outM c 0).view.set]{shr 12} (chunk outM c 0).view.rep (reduced m c 0))
        ∗ (cellInv ER (sched m) (K (dmaCell c agS 0 12)) (dmaCell c agS 0 12) ∗ atPos ER (dmaCell c agS 0 12) 1 ∅ 0)
        ∗ ((chunk outM c 0).view.loc (c : Thread nD τ) ↦[(chunk outM c 0).view.set]{shr 13} (chunk outM c 0).view.rep (reduced m c 0))
        ∗ (cellInv ER (sched m) (K (dmaCell c agS 0 13)) (dmaCell c agS 0 13) ∗ atPos ER (dmaCell c agS 0 13) 1 ∅ 0)
        ∗ ((chunk outM c 0).view.loc (c : Thread nD τ) ↦[(chunk outM c 0).view.set]{shr 14} (chunk outM c 0).view.rep (reduced m c 0))
        ∗ (cellInv ER (sched m) (K (dmaCell c agS 0 14)) (dmaCell c agS 0 14) ∗ atPos ER (dmaCell c agS 0 14) 1 ∅ 0)
        ∗ ((chunk outM c 0).view.loc (c : Thread nD τ) ↦[(chunk outM c 0).view.set]{shr 15} (chunk outM c 0).view.rep (reduced m c 0))
        ∗ (cellInv ER (sched m) (K (dmaCell c agS 0 15)) (dmaCell c agS 0 15) ∗ atPos ER (dmaCell c agS 0 15) 1 ∅ 0)
        ∗ ((chunk outM c 0).view.loc (c : Thread nD τ) ↦[(chunk outM c 0).view.set]{shr 16} (chunk outM c 0).view.rep (reduced m c 0))
        ∗ (cellInv ER (sched m) (K (dmaCell c agS 0 16)) (dmaCell c agS 0 16) ∗ atPos ER (dmaCell c agS 0 16) 1 ∅ 0)
        ∗ owes (c : Thread nD τ) (owedAfter c 155) (insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) (W))))))) -∗ Q r))
      ⊢ wp frame (wpE (defs₀ (F := F)) 𝒱₀ c none) Set.univ (k0_part137 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS0_12, AagS0_12, CagS0_12⟩, ⟨#IagS0_13, AagS0_13, CagS0_13⟩, ⟨#IagS0_14, AagS0_14, CagS0_14⟩, ⟨#IagS0_15, AagS0_15, CagS0_15⟩, ⟨#IagS0_16, AagS0_16, CagS0_16⟩, #Hlev, HO, Hk⟩
  have hmwagS0_12 := mayWait_end (F := F) c (.dma (semAt (arr agS) 0 12))
  have hmwagS0_13 := mayWait_end (F := F) c (.dma (semAt (arr agS) 0 13))
  have hmwagS0_14 := mayWait_end (F := F) c (.dma (semAt (arr agS) 0 14))
  have hmwagS0_15 := mayWait_end (F := F) c (.dma (semAt (arr agS) 0 15))
  have hmwagS0_16 := mayWait_end (F := F) c (.dma (semAt (arr agS) 0 16))
  sl_exec_parts
  sl_step
  iapply Hk
  isplitl [AagS0_12_pay1]; · iexact AagS0_12_pay1
  isplitl [AagS0_12]; · (isplitr; · iexact IagS0_12); iexact AagS0_12
  isplitl [AagS0_13_pay1]; · iexact AagS0_13_pay1
  isplitl [AagS0_13]; · (isplitr; · iexact IagS0_13); iexact AagS0_13
  isplitl [AagS0_14_pay1]; · iexact AagS0_14_pay1
  isplitl [AagS0_14]; · (isplitr; · iexact IagS0_14); iexact AagS0_14
  isplitl [AagS0_15_pay1]; · iexact AagS0_15_pay1
  isplitl [AagS0_15]; · (isplitr; · iexact IagS0_15); iexact AagS0_15
  isplitl [AagS0_16_pay1]; · iexact AagS0_16_pay1
  isplitl [AagS0_16]; · (isplitr; · iexact IagS0_16); iexact AagS0_16
  iexact HO

attribute [local sl_rounds] duties_dma amount_dma expect_dma pay_agS in
set_option maxHeartbeats 4000000 in
theorem part138_spec (c : Dev nD)  (W : Waits sig Unit) (Q : (PUnit) → sProp 𝕄) :
    iprop(recvRes m K agS c 0 17
      ∗ recvRes m K agS c 0 18
      ∗ recvRes m K agS c 0 19
      ∗ recvRes m K agS c 0 20
      ∗ recvRes m K agS c 0 21
      ∗ levAts L lv
      ∗ owes (c : Thread nD τ) (owedAfter c 155) W
      ∗ (∀ r, (((chunk outM c 0).view.loc (c : Thread nD τ) ↦[(chunk outM c 0).view.set]{shr 17} (chunk outM c 0).view.rep (reduced m c 0))
        ∗ (cellInv ER (sched m) (K (dmaCell c agS 0 17)) (dmaCell c agS 0 17) ∗ atPos ER (dmaCell c agS 0 17) 1 ∅ 0)
        ∗ ((chunk outM c 0).view.loc (c : Thread nD τ) ↦[(chunk outM c 0).view.set]{shr 18} (chunk outM c 0).view.rep (reduced m c 0))
        ∗ (cellInv ER (sched m) (K (dmaCell c agS 0 18)) (dmaCell c agS 0 18) ∗ atPos ER (dmaCell c agS 0 18) 1 ∅ 0)
        ∗ ((chunk outM c 0).view.loc (c : Thread nD τ) ↦[(chunk outM c 0).view.set]{shr 19} (chunk outM c 0).view.rep (reduced m c 0))
        ∗ (cellInv ER (sched m) (K (dmaCell c agS 0 19)) (dmaCell c agS 0 19) ∗ atPos ER (dmaCell c agS 0 19) 1 ∅ 0)
        ∗ ((chunk outM c 0).view.loc (c : Thread nD τ) ↦[(chunk outM c 0).view.set]{shr 20} (chunk outM c 0).view.rep (reduced m c 0))
        ∗ (cellInv ER (sched m) (K (dmaCell c agS 0 20)) (dmaCell c agS 0 20) ∗ atPos ER (dmaCell c agS 0 20) 1 ∅ 0)
        ∗ ((chunk outM c 0).view.loc (c : Thread nD τ) ↦[(chunk outM c 0).view.set]{shr 21} (chunk outM c 0).view.rep (reduced m c 0))
        ∗ (cellInv ER (sched m) (K (dmaCell c agS 0 21)) (dmaCell c agS 0 21) ∗ atPos ER (dmaCell c agS 0 21) 1 ∅ 0)
        ∗ owes (c : Thread nD τ) (owedAfter c 155) (insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) (W))))))) -∗ Q r))
      ⊢ wp frame (wpE (defs₀ (F := F)) 𝒱₀ c none) Set.univ (k0_part138 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS0_17, AagS0_17, CagS0_17⟩, ⟨#IagS0_18, AagS0_18, CagS0_18⟩, ⟨#IagS0_19, AagS0_19, CagS0_19⟩, ⟨#IagS0_20, AagS0_20, CagS0_20⟩, ⟨#IagS0_21, AagS0_21, CagS0_21⟩, #Hlev, HO, Hk⟩
  have hmwagS0_17 := mayWait_end (F := F) c (.dma (semAt (arr agS) 0 17))
  have hmwagS0_18 := mayWait_end (F := F) c (.dma (semAt (arr agS) 0 18))
  have hmwagS0_19 := mayWait_end (F := F) c (.dma (semAt (arr agS) 0 19))
  have hmwagS0_20 := mayWait_end (F := F) c (.dma (semAt (arr agS) 0 20))
  have hmwagS0_21 := mayWait_end (F := F) c (.dma (semAt (arr agS) 0 21))
  sl_exec_parts
  sl_step
  iapply Hk
  isplitl [AagS0_17_pay1]; · iexact AagS0_17_pay1
  isplitl [AagS0_17]; · (isplitr; · iexact IagS0_17); iexact AagS0_17
  isplitl [AagS0_18_pay1]; · iexact AagS0_18_pay1
  isplitl [AagS0_18]; · (isplitr; · iexact IagS0_18); iexact AagS0_18
  isplitl [AagS0_19_pay1]; · iexact AagS0_19_pay1
  isplitl [AagS0_19]; · (isplitr; · iexact IagS0_19); iexact AagS0_19
  isplitl [AagS0_20_pay1]; · iexact AagS0_20_pay1
  isplitl [AagS0_20]; · (isplitr; · iexact IagS0_20); iexact AagS0_20
  isplitl [AagS0_21_pay1]; · iexact AagS0_21_pay1
  isplitl [AagS0_21]; · (isplitr; · iexact IagS0_21); iexact AagS0_21
  iexact HO

attribute [local sl_rounds] duties_dma amount_dma expect_dma pay_agS in
set_option maxHeartbeats 4000000 in
theorem part139_spec (c : Dev nD)  (W : Waits sig Unit) (Q : (PUnit) → sProp 𝕄) :
    iprop(recvRes m K agS c 0 22
      ∗ recvRes m K agS c 0 23
      ∗ recvRes m K agS c 0 24
      ∗ recvRes m K agS c 0 25
      ∗ recvRes m K agS c 0 26
      ∗ levAts L lv
      ∗ owes (c : Thread nD τ) (owedAfter c 155) W
      ∗ (∀ r, (((chunk outM c 0).view.loc (c : Thread nD τ) ↦[(chunk outM c 0).view.set]{shr 22} (chunk outM c 0).view.rep (reduced m c 0))
        ∗ (cellInv ER (sched m) (K (dmaCell c agS 0 22)) (dmaCell c agS 0 22) ∗ atPos ER (dmaCell c agS 0 22) 1 ∅ 0)
        ∗ ((chunk outM c 0).view.loc (c : Thread nD τ) ↦[(chunk outM c 0).view.set]{shr 23} (chunk outM c 0).view.rep (reduced m c 0))
        ∗ (cellInv ER (sched m) (K (dmaCell c agS 0 23)) (dmaCell c agS 0 23) ∗ atPos ER (dmaCell c agS 0 23) 1 ∅ 0)
        ∗ ((chunk outM c 0).view.loc (c : Thread nD τ) ↦[(chunk outM c 0).view.set]{shr 24} (chunk outM c 0).view.rep (reduced m c 0))
        ∗ (cellInv ER (sched m) (K (dmaCell c agS 0 24)) (dmaCell c agS 0 24) ∗ atPos ER (dmaCell c agS 0 24) 1 ∅ 0)
        ∗ ((chunk outM c 0).view.loc (c : Thread nD τ) ↦[(chunk outM c 0).view.set]{shr 25} (chunk outM c 0).view.rep (reduced m c 0))
        ∗ (cellInv ER (sched m) (K (dmaCell c agS 0 25)) (dmaCell c agS 0 25) ∗ atPos ER (dmaCell c agS 0 25) 1 ∅ 0)
        ∗ ((chunk outM c 0).view.loc (c : Thread nD τ) ↦[(chunk outM c 0).view.set]{shr 26} (chunk outM c 0).view.rep (reduced m c 0))
        ∗ (cellInv ER (sched m) (K (dmaCell c agS 0 26)) (dmaCell c agS 0 26) ∗ atPos ER (dmaCell c agS 0 26) 1 ∅ 0)
        ∗ owes (c : Thread nD τ) (owedAfter c 155) (insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) (W))))))) -∗ Q r))
      ⊢ wp frame (wpE (defs₀ (F := F)) 𝒱₀ c none) Set.univ (k0_part139 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS0_22, AagS0_22, CagS0_22⟩, ⟨#IagS0_23, AagS0_23, CagS0_23⟩, ⟨#IagS0_24, AagS0_24, CagS0_24⟩, ⟨#IagS0_25, AagS0_25, CagS0_25⟩, ⟨#IagS0_26, AagS0_26, CagS0_26⟩, #Hlev, HO, Hk⟩
  have hmwagS0_22 := mayWait_end (F := F) c (.dma (semAt (arr agS) 0 22))
  have hmwagS0_23 := mayWait_end (F := F) c (.dma (semAt (arr agS) 0 23))
  have hmwagS0_24 := mayWait_end (F := F) c (.dma (semAt (arr agS) 0 24))
  have hmwagS0_25 := mayWait_end (F := F) c (.dma (semAt (arr agS) 0 25))
  have hmwagS0_26 := mayWait_end (F := F) c (.dma (semAt (arr agS) 0 26))
  sl_exec_parts
  sl_step
  iapply Hk
  isplitl [AagS0_22_pay1]; · iexact AagS0_22_pay1
  isplitl [AagS0_22]; · (isplitr; · iexact IagS0_22); iexact AagS0_22
  isplitl [AagS0_23_pay1]; · iexact AagS0_23_pay1
  isplitl [AagS0_23]; · (isplitr; · iexact IagS0_23); iexact AagS0_23
  isplitl [AagS0_24_pay1]; · iexact AagS0_24_pay1
  isplitl [AagS0_24]; · (isplitr; · iexact IagS0_24); iexact AagS0_24
  isplitl [AagS0_25_pay1]; · iexact AagS0_25_pay1
  isplitl [AagS0_25]; · (isplitr; · iexact IagS0_25); iexact AagS0_25
  isplitl [AagS0_26_pay1]; · iexact AagS0_26_pay1
  isplitl [AagS0_26]; · (isplitr; · iexact IagS0_26); iexact AagS0_26
  iexact HO

attribute [local sl_rounds] duties_dma amount_dma expect_dma pay_agS in
set_option maxHeartbeats 4000000 in
theorem part140_spec (c : Dev nD)  (W : Waits sig Unit) (Q : (PUnit) → sProp 𝕄) :
    iprop(recvRes m K agS c 0 27
      ∗ recvRes m K agS c 0 28
      ∗ recvRes m K agS c 0 29
      ∗ recvRes m K agS c 0 30
      ∗ recvRes m K agS c 0 31
      ∗ levAts L lv
      ∗ owes (c : Thread nD τ) (owedAfter c 155) W
      ∗ (∀ r, (((chunk outM c 0).view.loc (c : Thread nD τ) ↦[(chunk outM c 0).view.set]{shr 27} (chunk outM c 0).view.rep (reduced m c 0))
        ∗ (cellInv ER (sched m) (K (dmaCell c agS 0 27)) (dmaCell c agS 0 27) ∗ atPos ER (dmaCell c agS 0 27) 1 ∅ 0)
        ∗ ((chunk outM c 0).view.loc (c : Thread nD τ) ↦[(chunk outM c 0).view.set]{shr 28} (chunk outM c 0).view.rep (reduced m c 0))
        ∗ (cellInv ER (sched m) (K (dmaCell c agS 0 28)) (dmaCell c agS 0 28) ∗ atPos ER (dmaCell c agS 0 28) 1 ∅ 0)
        ∗ ((chunk outM c 0).view.loc (c : Thread nD τ) ↦[(chunk outM c 0).view.set]{shr 29} (chunk outM c 0).view.rep (reduced m c 0))
        ∗ (cellInv ER (sched m) (K (dmaCell c agS 0 29)) (dmaCell c agS 0 29) ∗ atPos ER (dmaCell c agS 0 29) 1 ∅ 0)
        ∗ ((chunk outM c 0).view.loc (c : Thread nD τ) ↦[(chunk outM c 0).view.set]{shr 30} (chunk outM c 0).view.rep (reduced m c 0))
        ∗ (cellInv ER (sched m) (K (dmaCell c agS 0 30)) (dmaCell c agS 0 30) ∗ atPos ER (dmaCell c agS 0 30) 1 ∅ 0)
        ∗ ((chunk outM c 0).view.loc (c : Thread nD τ) ↦[(chunk outM c 0).view.set]{shr 31} (chunk outM c 0).view.rep (reduced m c 0))
        ∗ (cellInv ER (sched m) (K (dmaCell c agS 0 31)) (dmaCell c agS 0 31) ∗ atPos ER (dmaCell c agS 0 31) 1 ∅ 0)
        ∗ owes (c : Thread nD τ) (owedAfter c 155) (insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) (W))))))) -∗ Q r))
      ⊢ wp frame (wpE (defs₀ (F := F)) 𝒱₀ c none) Set.univ (k0_part140 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS0_27, AagS0_27, CagS0_27⟩, ⟨#IagS0_28, AagS0_28, CagS0_28⟩, ⟨#IagS0_29, AagS0_29, CagS0_29⟩, ⟨#IagS0_30, AagS0_30, CagS0_30⟩, ⟨#IagS0_31, AagS0_31, CagS0_31⟩, #Hlev, HO, Hk⟩
  have hmwagS0_27 := mayWait_end (F := F) c (.dma (semAt (arr agS) 0 27))
  have hmwagS0_28 := mayWait_end (F := F) c (.dma (semAt (arr agS) 0 28))
  have hmwagS0_29 := mayWait_end (F := F) c (.dma (semAt (arr agS) 0 29))
  have hmwagS0_30 := mayWait_end (F := F) c (.dma (semAt (arr agS) 0 30))
  have hmwagS0_31 := mayWait_end (F := F) c (.dma (semAt (arr agS) 0 31))
  sl_exec_parts
  sl_step
  iapply Hk
  isplitl [AagS0_27_pay1]; · iexact AagS0_27_pay1
  isplitl [AagS0_27]; · (isplitr; · iexact IagS0_27); iexact AagS0_27
  isplitl [AagS0_28_pay1]; · iexact AagS0_28_pay1
  isplitl [AagS0_28]; · (isplitr; · iexact IagS0_28); iexact AagS0_28
  isplitl [AagS0_29_pay1]; · iexact AagS0_29_pay1
  isplitl [AagS0_29]; · (isplitr; · iexact IagS0_29); iexact AagS0_29
  isplitl [AagS0_30_pay1]; · iexact AagS0_30_pay1
  isplitl [AagS0_30]; · (isplitr; · iexact IagS0_30); iexact AagS0_30
  isplitl [AagS0_31_pay1]; · iexact AagS0_31_pay1
  isplitl [AagS0_31]; · (isplitr; · iexact IagS0_31); iexact AagS0_31
  iexact HO

attribute [local sl_rounds] duties_dma amount_dma expect_dma pay_agS in
set_option maxHeartbeats 4000000 in
theorem part141_spec (c : Dev nD)  (W : Waits sig Unit) (Q : (PUnit) → sProp 𝕄) :
    iprop(recvRes m K agS c 1 1
      ∗ recvRes m K agS c 1 2
      ∗ recvRes m K agS c 1 3
      ∗ recvRes m K agS c 1 4
      ∗ recvRes m K agS c 1 5
      ∗ levAts L lv
      ∗ owes (c : Thread nD τ) (owedAfter c 155) W
      ∗ (∀ r, (((chunk outM c 1).view.loc (c : Thread nD τ) ↦[(chunk outM c 1).view.set]{shr 1} (chunk outM c 1).view.rep (reduced m c 1))
        ∗ (cellInv ER (sched m) (K (dmaCell c agS 1 1)) (dmaCell c agS 1 1) ∗ atPos ER (dmaCell c agS 1 1) 1 ∅ 0)
        ∗ ((chunk outM c 1).view.loc (c : Thread nD τ) ↦[(chunk outM c 1).view.set]{shr 2} (chunk outM c 1).view.rep (reduced m c 1))
        ∗ (cellInv ER (sched m) (K (dmaCell c agS 1 2)) (dmaCell c agS 1 2) ∗ atPos ER (dmaCell c agS 1 2) 1 ∅ 0)
        ∗ ((chunk outM c 1).view.loc (c : Thread nD τ) ↦[(chunk outM c 1).view.set]{shr 3} (chunk outM c 1).view.rep (reduced m c 1))
        ∗ (cellInv ER (sched m) (K (dmaCell c agS 1 3)) (dmaCell c agS 1 3) ∗ atPos ER (dmaCell c agS 1 3) 1 ∅ 0)
        ∗ ((chunk outM c 1).view.loc (c : Thread nD τ) ↦[(chunk outM c 1).view.set]{shr 4} (chunk outM c 1).view.rep (reduced m c 1))
        ∗ (cellInv ER (sched m) (K (dmaCell c agS 1 4)) (dmaCell c agS 1 4) ∗ atPos ER (dmaCell c agS 1 4) 1 ∅ 0)
        ∗ ((chunk outM c 1).view.loc (c : Thread nD τ) ↦[(chunk outM c 1).view.set]{shr 5} (chunk outM c 1).view.rep (reduced m c 1))
        ∗ (cellInv ER (sched m) (K (dmaCell c agS 1 5)) (dmaCell c agS 1 5) ∗ atPos ER (dmaCell c agS 1 5) 1 ∅ 0)
        ∗ owes (c : Thread nD τ) (owedAfter c 155) (insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) (W))))))) -∗ Q r))
      ⊢ wp frame (wpE (defs₀ (F := F)) 𝒱₀ c none) Set.univ (k0_part141 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS1_1, AagS1_1, CagS1_1⟩, ⟨#IagS1_2, AagS1_2, CagS1_2⟩, ⟨#IagS1_3, AagS1_3, CagS1_3⟩, ⟨#IagS1_4, AagS1_4, CagS1_4⟩, ⟨#IagS1_5, AagS1_5, CagS1_5⟩, #Hlev, HO, Hk⟩
  have hmwagS1_1 := mayWait_end (F := F) c (.dma (semAt (arr agS) 1 1))
  have hmwagS1_2 := mayWait_end (F := F) c (.dma (semAt (arr agS) 1 2))
  have hmwagS1_3 := mayWait_end (F := F) c (.dma (semAt (arr agS) 1 3))
  have hmwagS1_4 := mayWait_end (F := F) c (.dma (semAt (arr agS) 1 4))
  have hmwagS1_5 := mayWait_end (F := F) c (.dma (semAt (arr agS) 1 5))
  sl_exec_parts
  sl_step
  iapply Hk
  isplitl [AagS1_1_pay1]; · iexact AagS1_1_pay1
  isplitl [AagS1_1]; · (isplitr; · iexact IagS1_1); iexact AagS1_1
  isplitl [AagS1_2_pay1]; · iexact AagS1_2_pay1
  isplitl [AagS1_2]; · (isplitr; · iexact IagS1_2); iexact AagS1_2
  isplitl [AagS1_3_pay1]; · iexact AagS1_3_pay1
  isplitl [AagS1_3]; · (isplitr; · iexact IagS1_3); iexact AagS1_3
  isplitl [AagS1_4_pay1]; · iexact AagS1_4_pay1
  isplitl [AagS1_4]; · (isplitr; · iexact IagS1_4); iexact AagS1_4
  isplitl [AagS1_5_pay1]; · iexact AagS1_5_pay1
  isplitl [AagS1_5]; · (isplitr; · iexact IagS1_5); iexact AagS1_5
  iexact HO

attribute [local sl_rounds] duties_dma amount_dma expect_dma pay_agS in
set_option maxHeartbeats 4000000 in
theorem part142_spec (c : Dev nD)  (W : Waits sig Unit) (Q : (PUnit) → sProp 𝕄) :
    iprop(recvRes m K agS c 1 6
      ∗ recvRes m K agS c 1 7
      ∗ recvRes m K agS c 1 8
      ∗ recvRes m K agS c 1 9
      ∗ recvRes m K agS c 1 10
      ∗ levAts L lv
      ∗ owes (c : Thread nD τ) (owedAfter c 155) W
      ∗ (∀ r, (((chunk outM c 1).view.loc (c : Thread nD τ) ↦[(chunk outM c 1).view.set]{shr 6} (chunk outM c 1).view.rep (reduced m c 1))
        ∗ (cellInv ER (sched m) (K (dmaCell c agS 1 6)) (dmaCell c agS 1 6) ∗ atPos ER (dmaCell c agS 1 6) 1 ∅ 0)
        ∗ ((chunk outM c 1).view.loc (c : Thread nD τ) ↦[(chunk outM c 1).view.set]{shr 7} (chunk outM c 1).view.rep (reduced m c 1))
        ∗ (cellInv ER (sched m) (K (dmaCell c agS 1 7)) (dmaCell c agS 1 7) ∗ atPos ER (dmaCell c agS 1 7) 1 ∅ 0)
        ∗ ((chunk outM c 1).view.loc (c : Thread nD τ) ↦[(chunk outM c 1).view.set]{shr 8} (chunk outM c 1).view.rep (reduced m c 1))
        ∗ (cellInv ER (sched m) (K (dmaCell c agS 1 8)) (dmaCell c agS 1 8) ∗ atPos ER (dmaCell c agS 1 8) 1 ∅ 0)
        ∗ ((chunk outM c 1).view.loc (c : Thread nD τ) ↦[(chunk outM c 1).view.set]{shr 9} (chunk outM c 1).view.rep (reduced m c 1))
        ∗ (cellInv ER (sched m) (K (dmaCell c agS 1 9)) (dmaCell c agS 1 9) ∗ atPos ER (dmaCell c agS 1 9) 1 ∅ 0)
        ∗ ((chunk outM c 1).view.loc (c : Thread nD τ) ↦[(chunk outM c 1).view.set]{shr 10} (chunk outM c 1).view.rep (reduced m c 1))
        ∗ (cellInv ER (sched m) (K (dmaCell c agS 1 10)) (dmaCell c agS 1 10) ∗ atPos ER (dmaCell c agS 1 10) 1 ∅ 0)
        ∗ owes (c : Thread nD τ) (owedAfter c 155) (insert (SemLoc.dma (semAt (arr agS) 1 10), ()) (insert (SemLoc.dma (semAt (arr agS) 1 9), ()) (insert (SemLoc.dma (semAt (arr agS) 1 8), ()) (insert (SemLoc.dma (semAt (arr agS) 1 7), ()) (insert (SemLoc.dma (semAt (arr agS) 1 6), ()) (W))))))) -∗ Q r))
      ⊢ wp frame (wpE (defs₀ (F := F)) 𝒱₀ c none) Set.univ (k0_part142 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS1_6, AagS1_6, CagS1_6⟩, ⟨#IagS1_7, AagS1_7, CagS1_7⟩, ⟨#IagS1_8, AagS1_8, CagS1_8⟩, ⟨#IagS1_9, AagS1_9, CagS1_9⟩, ⟨#IagS1_10, AagS1_10, CagS1_10⟩, #Hlev, HO, Hk⟩
  have hmwagS1_6 := mayWait_end (F := F) c (.dma (semAt (arr agS) 1 6))
  have hmwagS1_7 := mayWait_end (F := F) c (.dma (semAt (arr agS) 1 7))
  have hmwagS1_8 := mayWait_end (F := F) c (.dma (semAt (arr agS) 1 8))
  have hmwagS1_9 := mayWait_end (F := F) c (.dma (semAt (arr agS) 1 9))
  have hmwagS1_10 := mayWait_end (F := F) c (.dma (semAt (arr agS) 1 10))
  sl_exec_parts
  sl_step
  iapply Hk
  isplitl [AagS1_6_pay1]; · iexact AagS1_6_pay1
  isplitl [AagS1_6]; · (isplitr; · iexact IagS1_6); iexact AagS1_6
  isplitl [AagS1_7_pay1]; · iexact AagS1_7_pay1
  isplitl [AagS1_7]; · (isplitr; · iexact IagS1_7); iexact AagS1_7
  isplitl [AagS1_8_pay1]; · iexact AagS1_8_pay1
  isplitl [AagS1_8]; · (isplitr; · iexact IagS1_8); iexact AagS1_8
  isplitl [AagS1_9_pay1]; · iexact AagS1_9_pay1
  isplitl [AagS1_9]; · (isplitr; · iexact IagS1_9); iexact AagS1_9
  isplitl [AagS1_10_pay1]; · iexact AagS1_10_pay1
  isplitl [AagS1_10]; · (isplitr; · iexact IagS1_10); iexact AagS1_10
  iexact HO

attribute [local sl_rounds] duties_dma amount_dma expect_dma pay_agS in
set_option maxHeartbeats 4000000 in
theorem part143_spec (c : Dev nD)  (W : Waits sig Unit) (Q : (PUnit) → sProp 𝕄) :
    iprop(recvRes m K agS c 1 11
      ∗ recvRes m K agS c 1 12
      ∗ recvRes m K agS c 1 13
      ∗ recvRes m K agS c 1 14
      ∗ recvRes m K agS c 1 15
      ∗ levAts L lv
      ∗ owes (c : Thread nD τ) (owedAfter c 155) W
      ∗ (∀ r, (((chunk outM c 1).view.loc (c : Thread nD τ) ↦[(chunk outM c 1).view.set]{shr 11} (chunk outM c 1).view.rep (reduced m c 1))
        ∗ (cellInv ER (sched m) (K (dmaCell c agS 1 11)) (dmaCell c agS 1 11) ∗ atPos ER (dmaCell c agS 1 11) 1 ∅ 0)
        ∗ ((chunk outM c 1).view.loc (c : Thread nD τ) ↦[(chunk outM c 1).view.set]{shr 12} (chunk outM c 1).view.rep (reduced m c 1))
        ∗ (cellInv ER (sched m) (K (dmaCell c agS 1 12)) (dmaCell c agS 1 12) ∗ atPos ER (dmaCell c agS 1 12) 1 ∅ 0)
        ∗ ((chunk outM c 1).view.loc (c : Thread nD τ) ↦[(chunk outM c 1).view.set]{shr 13} (chunk outM c 1).view.rep (reduced m c 1))
        ∗ (cellInv ER (sched m) (K (dmaCell c agS 1 13)) (dmaCell c agS 1 13) ∗ atPos ER (dmaCell c agS 1 13) 1 ∅ 0)
        ∗ ((chunk outM c 1).view.loc (c : Thread nD τ) ↦[(chunk outM c 1).view.set]{shr 14} (chunk outM c 1).view.rep (reduced m c 1))
        ∗ (cellInv ER (sched m) (K (dmaCell c agS 1 14)) (dmaCell c agS 1 14) ∗ atPos ER (dmaCell c agS 1 14) 1 ∅ 0)
        ∗ ((chunk outM c 1).view.loc (c : Thread nD τ) ↦[(chunk outM c 1).view.set]{shr 15} (chunk outM c 1).view.rep (reduced m c 1))
        ∗ (cellInv ER (sched m) (K (dmaCell c agS 1 15)) (dmaCell c agS 1 15) ∗ atPos ER (dmaCell c agS 1 15) 1 ∅ 0)
        ∗ owes (c : Thread nD τ) (owedAfter c 155) (insert (SemLoc.dma (semAt (arr agS) 1 15), ()) (insert (SemLoc.dma (semAt (arr agS) 1 14), ()) (insert (SemLoc.dma (semAt (arr agS) 1 13), ()) (insert (SemLoc.dma (semAt (arr agS) 1 12), ()) (insert (SemLoc.dma (semAt (arr agS) 1 11), ()) (W))))))) -∗ Q r))
      ⊢ wp frame (wpE (defs₀ (F := F)) 𝒱₀ c none) Set.univ (k0_part143 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS1_11, AagS1_11, CagS1_11⟩, ⟨#IagS1_12, AagS1_12, CagS1_12⟩, ⟨#IagS1_13, AagS1_13, CagS1_13⟩, ⟨#IagS1_14, AagS1_14, CagS1_14⟩, ⟨#IagS1_15, AagS1_15, CagS1_15⟩, #Hlev, HO, Hk⟩
  have hmwagS1_11 := mayWait_end (F := F) c (.dma (semAt (arr agS) 1 11))
  have hmwagS1_12 := mayWait_end (F := F) c (.dma (semAt (arr agS) 1 12))
  have hmwagS1_13 := mayWait_end (F := F) c (.dma (semAt (arr agS) 1 13))
  have hmwagS1_14 := mayWait_end (F := F) c (.dma (semAt (arr agS) 1 14))
  have hmwagS1_15 := mayWait_end (F := F) c (.dma (semAt (arr agS) 1 15))
  sl_exec_parts
  sl_step
  iapply Hk
  isplitl [AagS1_11_pay1]; · iexact AagS1_11_pay1
  isplitl [AagS1_11]; · (isplitr; · iexact IagS1_11); iexact AagS1_11
  isplitl [AagS1_12_pay1]; · iexact AagS1_12_pay1
  isplitl [AagS1_12]; · (isplitr; · iexact IagS1_12); iexact AagS1_12
  isplitl [AagS1_13_pay1]; · iexact AagS1_13_pay1
  isplitl [AagS1_13]; · (isplitr; · iexact IagS1_13); iexact AagS1_13
  isplitl [AagS1_14_pay1]; · iexact AagS1_14_pay1
  isplitl [AagS1_14]; · (isplitr; · iexact IagS1_14); iexact AagS1_14
  isplitl [AagS1_15_pay1]; · iexact AagS1_15_pay1
  isplitl [AagS1_15]; · (isplitr; · iexact IagS1_15); iexact AagS1_15
  iexact HO

attribute [local sl_rounds] duties_dma amount_dma expect_dma pay_agS in
set_option maxHeartbeats 4000000 in
theorem part144_spec (c : Dev nD)  (W : Waits sig Unit) (Q : (PUnit) → sProp 𝕄) :
    iprop(recvRes m K agS c 1 16
      ∗ recvRes m K agS c 1 17
      ∗ recvRes m K agS c 1 18
      ∗ recvRes m K agS c 1 19
      ∗ recvRes m K agS c 1 20
      ∗ levAts L lv
      ∗ owes (c : Thread nD τ) (owedAfter c 155) W
      ∗ (∀ r, (((chunk outM c 1).view.loc (c : Thread nD τ) ↦[(chunk outM c 1).view.set]{shr 16} (chunk outM c 1).view.rep (reduced m c 1))
        ∗ (cellInv ER (sched m) (K (dmaCell c agS 1 16)) (dmaCell c agS 1 16) ∗ atPos ER (dmaCell c agS 1 16) 1 ∅ 0)
        ∗ ((chunk outM c 1).view.loc (c : Thread nD τ) ↦[(chunk outM c 1).view.set]{shr 17} (chunk outM c 1).view.rep (reduced m c 1))
        ∗ (cellInv ER (sched m) (K (dmaCell c agS 1 17)) (dmaCell c agS 1 17) ∗ atPos ER (dmaCell c agS 1 17) 1 ∅ 0)
        ∗ ((chunk outM c 1).view.loc (c : Thread nD τ) ↦[(chunk outM c 1).view.set]{shr 18} (chunk outM c 1).view.rep (reduced m c 1))
        ∗ (cellInv ER (sched m) (K (dmaCell c agS 1 18)) (dmaCell c agS 1 18) ∗ atPos ER (dmaCell c agS 1 18) 1 ∅ 0)
        ∗ ((chunk outM c 1).view.loc (c : Thread nD τ) ↦[(chunk outM c 1).view.set]{shr 19} (chunk outM c 1).view.rep (reduced m c 1))
        ∗ (cellInv ER (sched m) (K (dmaCell c agS 1 19)) (dmaCell c agS 1 19) ∗ atPos ER (dmaCell c agS 1 19) 1 ∅ 0)
        ∗ ((chunk outM c 1).view.loc (c : Thread nD τ) ↦[(chunk outM c 1).view.set]{shr 20} (chunk outM c 1).view.rep (reduced m c 1))
        ∗ (cellInv ER (sched m) (K (dmaCell c agS 1 20)) (dmaCell c agS 1 20) ∗ atPos ER (dmaCell c agS 1 20) 1 ∅ 0)
        ∗ owes (c : Thread nD τ) (owedAfter c 155) (insert (SemLoc.dma (semAt (arr agS) 1 20), ()) (insert (SemLoc.dma (semAt (arr agS) 1 19), ()) (insert (SemLoc.dma (semAt (arr agS) 1 18), ()) (insert (SemLoc.dma (semAt (arr agS) 1 17), ()) (insert (SemLoc.dma (semAt (arr agS) 1 16), ()) (W))))))) -∗ Q r))
      ⊢ wp frame (wpE (defs₀ (F := F)) 𝒱₀ c none) Set.univ (k0_part144 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS1_16, AagS1_16, CagS1_16⟩, ⟨#IagS1_17, AagS1_17, CagS1_17⟩, ⟨#IagS1_18, AagS1_18, CagS1_18⟩, ⟨#IagS1_19, AagS1_19, CagS1_19⟩, ⟨#IagS1_20, AagS1_20, CagS1_20⟩, #Hlev, HO, Hk⟩
  have hmwagS1_16 := mayWait_end (F := F) c (.dma (semAt (arr agS) 1 16))
  have hmwagS1_17 := mayWait_end (F := F) c (.dma (semAt (arr agS) 1 17))
  have hmwagS1_18 := mayWait_end (F := F) c (.dma (semAt (arr agS) 1 18))
  have hmwagS1_19 := mayWait_end (F := F) c (.dma (semAt (arr agS) 1 19))
  have hmwagS1_20 := mayWait_end (F := F) c (.dma (semAt (arr agS) 1 20))
  sl_exec_parts
  sl_step
  iapply Hk
  isplitl [AagS1_16_pay1]; · iexact AagS1_16_pay1
  isplitl [AagS1_16]; · (isplitr; · iexact IagS1_16); iexact AagS1_16
  isplitl [AagS1_17_pay1]; · iexact AagS1_17_pay1
  isplitl [AagS1_17]; · (isplitr; · iexact IagS1_17); iexact AagS1_17
  isplitl [AagS1_18_pay1]; · iexact AagS1_18_pay1
  isplitl [AagS1_18]; · (isplitr; · iexact IagS1_18); iexact AagS1_18
  isplitl [AagS1_19_pay1]; · iexact AagS1_19_pay1
  isplitl [AagS1_19]; · (isplitr; · iexact IagS1_19); iexact AagS1_19
  isplitl [AagS1_20_pay1]; · iexact AagS1_20_pay1
  isplitl [AagS1_20]; · (isplitr; · iexact IagS1_20); iexact AagS1_20
  iexact HO

attribute [local sl_rounds] duties_dma amount_dma expect_dma pay_agS in
set_option maxHeartbeats 4000000 in
theorem part145_spec (c : Dev nD)  (W : Waits sig Unit) (Q : (PUnit) → sProp 𝕄) :
    iprop(recvRes m K agS c 1 21
      ∗ recvRes m K agS c 1 22
      ∗ recvRes m K agS c 1 23
      ∗ recvRes m K agS c 1 24
      ∗ recvRes m K agS c 1 25
      ∗ levAts L lv
      ∗ owes (c : Thread nD τ) (owedAfter c 155) W
      ∗ (∀ r, (((chunk outM c 1).view.loc (c : Thread nD τ) ↦[(chunk outM c 1).view.set]{shr 21} (chunk outM c 1).view.rep (reduced m c 1))
        ∗ (cellInv ER (sched m) (K (dmaCell c agS 1 21)) (dmaCell c agS 1 21) ∗ atPos ER (dmaCell c agS 1 21) 1 ∅ 0)
        ∗ ((chunk outM c 1).view.loc (c : Thread nD τ) ↦[(chunk outM c 1).view.set]{shr 22} (chunk outM c 1).view.rep (reduced m c 1))
        ∗ (cellInv ER (sched m) (K (dmaCell c agS 1 22)) (dmaCell c agS 1 22) ∗ atPos ER (dmaCell c agS 1 22) 1 ∅ 0)
        ∗ ((chunk outM c 1).view.loc (c : Thread nD τ) ↦[(chunk outM c 1).view.set]{shr 23} (chunk outM c 1).view.rep (reduced m c 1))
        ∗ (cellInv ER (sched m) (K (dmaCell c agS 1 23)) (dmaCell c agS 1 23) ∗ atPos ER (dmaCell c agS 1 23) 1 ∅ 0)
        ∗ ((chunk outM c 1).view.loc (c : Thread nD τ) ↦[(chunk outM c 1).view.set]{shr 24} (chunk outM c 1).view.rep (reduced m c 1))
        ∗ (cellInv ER (sched m) (K (dmaCell c agS 1 24)) (dmaCell c agS 1 24) ∗ atPos ER (dmaCell c agS 1 24) 1 ∅ 0)
        ∗ ((chunk outM c 1).view.loc (c : Thread nD τ) ↦[(chunk outM c 1).view.set]{shr 25} (chunk outM c 1).view.rep (reduced m c 1))
        ∗ (cellInv ER (sched m) (K (dmaCell c agS 1 25)) (dmaCell c agS 1 25) ∗ atPos ER (dmaCell c agS 1 25) 1 ∅ 0)
        ∗ owes (c : Thread nD τ) (owedAfter c 155) (insert (SemLoc.dma (semAt (arr agS) 1 25), ()) (insert (SemLoc.dma (semAt (arr agS) 1 24), ()) (insert (SemLoc.dma (semAt (arr agS) 1 23), ()) (insert (SemLoc.dma (semAt (arr agS) 1 22), ()) (insert (SemLoc.dma (semAt (arr agS) 1 21), ()) (W))))))) -∗ Q r))
      ⊢ wp frame (wpE (defs₀ (F := F)) 𝒱₀ c none) Set.univ (k0_part145 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS1_21, AagS1_21, CagS1_21⟩, ⟨#IagS1_22, AagS1_22, CagS1_22⟩, ⟨#IagS1_23, AagS1_23, CagS1_23⟩, ⟨#IagS1_24, AagS1_24, CagS1_24⟩, ⟨#IagS1_25, AagS1_25, CagS1_25⟩, #Hlev, HO, Hk⟩
  have hmwagS1_21 := mayWait_end (F := F) c (.dma (semAt (arr agS) 1 21))
  have hmwagS1_22 := mayWait_end (F := F) c (.dma (semAt (arr agS) 1 22))
  have hmwagS1_23 := mayWait_end (F := F) c (.dma (semAt (arr agS) 1 23))
  have hmwagS1_24 := mayWait_end (F := F) c (.dma (semAt (arr agS) 1 24))
  have hmwagS1_25 := mayWait_end (F := F) c (.dma (semAt (arr agS) 1 25))
  sl_exec_parts
  sl_step
  iapply Hk
  isplitl [AagS1_21_pay1]; · iexact AagS1_21_pay1
  isplitl [AagS1_21]; · (isplitr; · iexact IagS1_21); iexact AagS1_21
  isplitl [AagS1_22_pay1]; · iexact AagS1_22_pay1
  isplitl [AagS1_22]; · (isplitr; · iexact IagS1_22); iexact AagS1_22
  isplitl [AagS1_23_pay1]; · iexact AagS1_23_pay1
  isplitl [AagS1_23]; · (isplitr; · iexact IagS1_23); iexact AagS1_23
  isplitl [AagS1_24_pay1]; · iexact AagS1_24_pay1
  isplitl [AagS1_24]; · (isplitr; · iexact IagS1_24); iexact AagS1_24
  isplitl [AagS1_25_pay1]; · iexact AagS1_25_pay1
  isplitl [AagS1_25]; · (isplitr; · iexact IagS1_25); iexact AagS1_25
  iexact HO

attribute [local sl_rounds] duties_dma amount_dma expect_dma pay_agS in
set_option maxHeartbeats 4000000 in
theorem part146_spec (c : Dev nD)  (W : Waits sig Unit) (Q : (PUnit) → sProp 𝕄) :
    iprop(recvRes m K agS c 1 26
      ∗ recvRes m K agS c 1 27
      ∗ recvRes m K agS c 1 28
      ∗ recvRes m K agS c 1 29
      ∗ recvRes m K agS c 1 30
      ∗ levAts L lv
      ∗ owes (c : Thread nD τ) (owedAfter c 155) W
      ∗ (∀ r, (((chunk outM c 1).view.loc (c : Thread nD τ) ↦[(chunk outM c 1).view.set]{shr 26} (chunk outM c 1).view.rep (reduced m c 1))
        ∗ (cellInv ER (sched m) (K (dmaCell c agS 1 26)) (dmaCell c agS 1 26) ∗ atPos ER (dmaCell c agS 1 26) 1 ∅ 0)
        ∗ ((chunk outM c 1).view.loc (c : Thread nD τ) ↦[(chunk outM c 1).view.set]{shr 27} (chunk outM c 1).view.rep (reduced m c 1))
        ∗ (cellInv ER (sched m) (K (dmaCell c agS 1 27)) (dmaCell c agS 1 27) ∗ atPos ER (dmaCell c agS 1 27) 1 ∅ 0)
        ∗ ((chunk outM c 1).view.loc (c : Thread nD τ) ↦[(chunk outM c 1).view.set]{shr 28} (chunk outM c 1).view.rep (reduced m c 1))
        ∗ (cellInv ER (sched m) (K (dmaCell c agS 1 28)) (dmaCell c agS 1 28) ∗ atPos ER (dmaCell c agS 1 28) 1 ∅ 0)
        ∗ ((chunk outM c 1).view.loc (c : Thread nD τ) ↦[(chunk outM c 1).view.set]{shr 29} (chunk outM c 1).view.rep (reduced m c 1))
        ∗ (cellInv ER (sched m) (K (dmaCell c agS 1 29)) (dmaCell c agS 1 29) ∗ atPos ER (dmaCell c agS 1 29) 1 ∅ 0)
        ∗ ((chunk outM c 1).view.loc (c : Thread nD τ) ↦[(chunk outM c 1).view.set]{shr 30} (chunk outM c 1).view.rep (reduced m c 1))
        ∗ (cellInv ER (sched m) (K (dmaCell c agS 1 30)) (dmaCell c agS 1 30) ∗ atPos ER (dmaCell c agS 1 30) 1 ∅ 0)
        ∗ owes (c : Thread nD τ) (owedAfter c 155) (insert (SemLoc.dma (semAt (arr agS) 1 30), ()) (insert (SemLoc.dma (semAt (arr agS) 1 29), ()) (insert (SemLoc.dma (semAt (arr agS) 1 28), ()) (insert (SemLoc.dma (semAt (arr agS) 1 27), ()) (insert (SemLoc.dma (semAt (arr agS) 1 26), ()) (W))))))) -∗ Q r))
      ⊢ wp frame (wpE (defs₀ (F := F)) 𝒱₀ c none) Set.univ (k0_part146 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS1_26, AagS1_26, CagS1_26⟩, ⟨#IagS1_27, AagS1_27, CagS1_27⟩, ⟨#IagS1_28, AagS1_28, CagS1_28⟩, ⟨#IagS1_29, AagS1_29, CagS1_29⟩, ⟨#IagS1_30, AagS1_30, CagS1_30⟩, #Hlev, HO, Hk⟩
  have hmwagS1_26 := mayWait_end (F := F) c (.dma (semAt (arr agS) 1 26))
  have hmwagS1_27 := mayWait_end (F := F) c (.dma (semAt (arr agS) 1 27))
  have hmwagS1_28 := mayWait_end (F := F) c (.dma (semAt (arr agS) 1 28))
  have hmwagS1_29 := mayWait_end (F := F) c (.dma (semAt (arr agS) 1 29))
  have hmwagS1_30 := mayWait_end (F := F) c (.dma (semAt (arr agS) 1 30))
  sl_exec_parts
  sl_step
  iapply Hk
  isplitl [AagS1_26_pay1]; · iexact AagS1_26_pay1
  isplitl [AagS1_26]; · (isplitr; · iexact IagS1_26); iexact AagS1_26
  isplitl [AagS1_27_pay1]; · iexact AagS1_27_pay1
  isplitl [AagS1_27]; · (isplitr; · iexact IagS1_27); iexact AagS1_27
  isplitl [AagS1_28_pay1]; · iexact AagS1_28_pay1
  isplitl [AagS1_28]; · (isplitr; · iexact IagS1_28); iexact AagS1_28
  isplitl [AagS1_29_pay1]; · iexact AagS1_29_pay1
  isplitl [AagS1_29]; · (isplitr; · iexact IagS1_29); iexact AagS1_29
  isplitl [AagS1_30_pay1]; · iexact AagS1_30_pay1
  isplitl [AagS1_30]; · (isplitr; · iexact IagS1_30); iexact AagS1_30
  iexact HO

end Cert.KernelIdeal.AllReduce

end
-- ==== Proof.BodyRes.lean ====
import proofs.«900438_g7700000000000439_dist_gemm_ar_m1024_k1024_n1024_f32_gelu_v7x_i32_1_alg».proof.Proof.Ghost

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-! ## The pieces of the buffers and the cells' closing facts, named, so that a statement over hundreds of them stays small -/

section Names
variable (c : Dev nD) (h : Fin 2) (k : Fin 32)

/-- Slot s of half h of this device's receive buffer, at the buffer's contents fb. -/
def slotAt (fb : Buf (Elt F) ((c : Thread nD τ).loc cc0_scratch2)) (s : Fin 32) : sProp 𝕄 :=
  ((slot h s).view.loc (c : Thread nD τ) ↦[(slot h s).view.set]{fullShare} fb)
/-- The gather rows of the device k places on, half h, in this device's gather buffer, at its contents fo. -/
def outAt (fo : Buf (Elt F) ((c : Thread nD τ).loc cc0_scratch1)) : sProp 𝕄 :=
  ((chunk outM (fwd c k) h).view.loc (c : Thread nD τ) ↦[(chunk outM (fwd c k) h).view.set]{fullShare} fo)
/-- The chunk of this device's partial product that goes to the device k places on. -/
def accSrcAt : sProp 𝕄 :=
  ((chunk accM (fwd c k) h).view.loc (c : Thread nD τ) ↦[(chunk accM (fwd c k) h).view.set]{fullShare} (chunk accM (fwd c k) h).view.rep (sent m c (fwd c k) h))
/-- The slot of offset k on the device k places on, at anything. -/
def peerSlotAt : sProp 𝕄 :=
  iprop(∃ f, ((slot h k).view.loc (fwd c k : Thread nD τ) ↦[(slot h k).view.set]{fullShare} f))
/-- This device's gather rows on the device k places on, at anything. -/
def peerOutAt : sProp 𝕄 :=
  iprop(∃ f, ((chunk outM c h).view.loc (fwd c k : Thread nD τ) ↦[(chunk outM c h).view.set]{fullShare} f))
/-- The share of this device's own reduced rows lent to the gather copy of offset k. -/
def outShareAt : sProp 𝕄 :=
  ((chunk outM c h).view.loc (c : Thread nD τ) ↦[(chunk outM c h).view.set]{shr k} (chunk outM c h).view.rep (reduced m c h))
/-- Slot k once the chunk of the device k places back has landed. -/
def gotRsR : sProp 𝕄 :=
  ((slot h k).view.loc (c : Thread nD τ) ↦[(slot h k).view.set]{fullShare} (slot h k).view.rep (sent m (bwd c k) c h))
/-- The gather rows of the device k places back once they have landed. -/
def gotAgR : sProp 𝕄 :=
  ((chunk outM (bwd c k) h).view.loc (c : Thread nD τ) ↦[(chunk outM (bwd c k) h).view.set]{fullShare} (chunk outM (bwd c k) h).view.rep (reduced m (bwd c k) h))
/-- Cell (p, h, k) past its round, ready to close. -/
def closedAt (p : Phase) : sProp 𝕄 :=
  iprop(cellInv ER (sched m) (K (dmaCell c p h k)) (dmaCell c p h k) ∗ atPos ER (dmaCell c p h k) 1 ∅ 0)

end Names

/-! ## Lists of resources: the first taken off, one put at the end -/

section Lists
variable {M : Type _} [URA M] {I : Type _}

theorem bigSepL_pop (Φ : I → sProp M) (i j : I) (l : List I) : bigSepL (i :: j :: l) Φ ⊢ iprop(Φ i ∗ bigSepL (j :: l) Φ) :=
  Entails.of_eq rfl

theorem bigSepL_one (Φ : I → sProp M) (i : I) : bigSepL [i] Φ ⊢ Φ i := Entails.of_eq rfl

theorem bigSepL_wrap (Φ : I → sProp M) (i : I) : Φ i ⊢ bigSepL [i] Φ := Entails.of_eq rfl

theorem bigSepL_snoc (Φ : I → sProp M) (l : List I) (a : I) (l' : List I) (h : l ++ [a] = l') :
    iprop(bigSepL l Φ ∗ Φ a) ⊢ bigSepL l' Φ := by
  subst h
  induction l with
  | nil => exact Entails.of_eq (equiv_iff.mp emp_sep)
  | cons i l ih =>
    rw [bigSepL_cons, List.cons_append, bigSepL_cons]
    show iprop((Φ i ∗ bigSepL l Φ) ∗ Φ a) ⊢ iprop(Φ i ∗ bigSepL (l ++ [a]) Φ)
    iintro ⟨⟨Hi, Hl⟩, Ha⟩
    isplitl [Hi]
    · iexact Hi
    iapply ih
    isplitl [Hl] <;> iassumption

end Lists

end Cert.KernelIdeal.AllReduce

end
-- ==== Proof.BodyTwins.lean ====
import proofs.«900438_g7700000000000439_dist_gemm_ar_m1024_k1024_n1024_f32_gelu_v7x_i32_1_alg».proof.Proof.BodySignals
import proofs.«900438_g7700000000000439_dist_gemm_ar_m1024_k1024_n1024_f32_gelu_v7x_i32_1_alg».proof.Proof.BodyCopiesA
import proofs.«900438_g7700000000000439_dist_gemm_ar_m1024_k1024_n1024_f32_gelu_v7x_i32_1_alg».proof.Proof.BodyCopiesB
import proofs.«900438_g7700000000000439_dist_gemm_ar_m1024_k1024_n1024_f32_gelu_v7x_i32_1_alg».proof.Proof.BodyCopiesC
import proofs.«900438_g7700000000000439_dist_gemm_ar_m1024_k1024_n1024_f32_gelu_v7x_i32_1_alg».proof.Proof.BodyCopiesD
import proofs.«900438_g7700000000000439_dist_gemm_ar_m1024_k1024_n1024_f32_gelu_v7x_i32_1_alg».proof.Proof.BodyWaitsA
import proofs.«900438_g7700000000000439_dist_gemm_ar_m1024_k1024_n1024_f32_gelu_v7x_i32_1_alg».proof.Proof.BodyWaitsB
import proofs.«900438_g7700000000000439_dist_gemm_ar_m1024_k1024_n1024_f32_gelu_v7x_i32_1_alg».proof.Proof.BodyWaitsC
import proofs.«900438_g7700000000000439_dist_gemm_ar_m1024_k1024_n1024_f32_gelu_v7x_i32_1_alg».proof.Proof.BodyWaitsD
import proofs.«900438_g7700000000000439_dist_gemm_ar_m1024_k1024_n1024_f32_gelu_v7x_i32_1_alg».proof.Proof.BodyWaitsE
import proofs.«900438_g7700000000000439_dist_gemm_ar_m1024_k1024_n1024_f32_gelu_v7x_i32_1_alg».proof.Proof.OwedSteps
import proofs.«900438_g7700000000000439_dist_gemm_ar_m1024_k1024_n1024_f32_gelu_v7x_i32_1_alg».proof.Proof.OwedWaits
import proofs.«900438_g7700000000000439_dist_gemm_ar_m1024_k1024_n1024_f32_gelu_v7x_i32_1_alg».proof.Proof.BodyRes

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (K : GSem nD τ sig → ℕ)

/-! ## The parts' statements over the named resources

Each statement below is the part's own, its resources spelt through the names of the resource module: the same by unfolding. -/

theorem part1_spec' (c : Dev nD) (fo : Buf (Elt F) ((c : Thread nD τ).loc cc0_scratch1)) (fb : Buf (Elt F) ((c : Thread nD τ).loc cc0_scratch2)) (O : CellTallies nD τ sig Unit) (W : Waits sig Unit) (Q : (Σ' (d0 : Dev nD) (v2 : BitVec 32) (v3 : Sems sig S_) (v24 : BitVec 32), BitVec 32) → sProp 𝕄) :
    iprop(sigRes m K c 1
      ∗ slotAt c 0 fb (opp 1)
      ∗ slotAt c 1 fb (opp 1)
      ∗ outAt c 0 1 fo
      ∗ outAt c 1 1 fo
      ∗ sigRes m K c 2
      ∗ slotAt c 0 fb (opp 2)
      ∗ slotAt c 1 fb (opp 2)
      ∗ outAt c 0 2 fo
      ∗ outAt c 1 2 fo
      ∗ sigRes m K c 3
      ∗ slotAt c 0 fb (opp 3)
      ∗ slotAt c 1 fb (opp 3)
      ∗ outAt c 0 3 fo
      ∗ outAt c 1 3 fo
      ∗ sigRes m K c 4
      ∗ slotAt c 0 fb (opp 4)
      ∗ slotAt c 1 fb (opp 4)
      ∗ outAt c 0 4 fo
      ∗ outAt c 1 4 fo
      ∗ sigRes m K c 5
      ∗ slotAt c 0 fb (opp 5)
      ∗ slotAt c 1 fb (opp 5)
      ∗ outAt c 0 5 fo
      ∗ outAt c 1 5 fo
      ∗ owes (c : Thread nD τ) (O + tallyAt (barCell (fwd c 5)) () 1 + tallyAt (barCell (fwd c 4)) () 1 + tallyAt (barCell (fwd c 3)) () 1 + tallyAt (barCell (fwd c 2)) () 1 + tallyAt (barCell (fwd c 1)) () 1) W
      ∗ (∀ (v2 v24 x : BitVec 32), (owes (c : Thread nD τ) (O) (W)) -∗ Q ⟨c, v2, SemArray.scalar (sig.barrier 0 rfl), v24, x⟩))
      ⊢ wp frame (wpE (defs₀ (F := F)) 𝒱₀ c none) Set.univ (k0_part1 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q :=
  part1_spec m K c fo fb O W Q

theorem part2_spec' (c : Dev nD) (v2 : BitVec 32) (v24 : BitVec 32) (c32_i32_20 : BitVec 32) (fo : Buf (Elt F) ((c : Thread nD τ).loc cc0_scratch1)) (fb : Buf (Elt F) ((c : Thread nD τ).loc cc0_scratch2)) (O : CellTallies nD τ sig Unit) (W : Waits sig Unit) (Q : (Σ' (v48 : BitVec 32), BitVec 32) → sProp 𝕄) :
    iprop(sigRes m K c 6
      ∗ slotAt c 0 fb (opp 6)
      ∗ slotAt c 1 fb (opp 6)
      ∗ outAt c 0 6 fo
      ∗ outAt c 1 6 fo
      ∗ sigRes m K c 7
      ∗ slotAt c 0 fb (opp 7)
      ∗ slotAt c 1 fb (opp 7)
      ∗ outAt c 0 7 fo
      ∗ outAt c 1 7 fo
      ∗ sigRes m K c 8
      ∗ slotAt c 0 fb (opp 8)
      ∗ slotAt c 1 fb (opp 8)
      ∗ outAt c 0 8 fo
      ∗ outAt c 1 8 fo
      ∗ sigRes m K c 9
      ∗ slotAt c 0 fb (opp 9)
      ∗ slotAt c 1 fb (opp 9)
      ∗ outAt c 0 9 fo
      ∗ outAt c 1 9 fo
      ∗ sigRes m K c 10
      ∗ slotAt c 0 fb (opp 10)
      ∗ slotAt c 1 fb (opp 10)
      ∗ outAt c 0 10 fo
      ∗ outAt c 1 10 fo
      ∗ sigRes m K c 11
      ∗ slotAt c 0 fb (opp 11)
      ∗ slotAt c 1 fb (opp 11)
      ∗ outAt c 0 11 fo
      ∗ outAt c 1 11 fo
      ∗ owes (c : Thread nD τ) (O + tallyAt (barCell (fwd c 11)) () 1 + tallyAt (barCell (fwd c 10)) () 1 + tallyAt (barCell (fwd c 9)) () 1 + tallyAt (barCell (fwd c 8)) () 1 + tallyAt (barCell (fwd c 7)) () 1 + tallyAt (barCell (fwd c 6)) () 1) W
      ∗ (∀ r, (owes (c : Thread nD τ) (O) (W)) -∗ Q r))
      ⊢ wp frame (wpE (defs₀ (F := F)) 𝒱₀ c none) Set.univ (k0_part2 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v24 c32_i32_20) Q :=
  part2_spec m K c v2 v24 c32_i32_20 fo fb O W Q

theorem part3_spec' (c : Dev nD) (v2 : BitVec 32) (v48 : BitVec 32) (c32_i32_44 : BitVec 32) (fo : Buf (Elt F) ((c : Thread nD τ).loc cc0_scratch1)) (fb : Buf (Elt F) ((c : Thread nD τ).loc cc0_scratch2)) (O : CellTallies nD τ sig Unit) (W : Waits sig Unit) (Q : (Σ' (v72 : BitVec 32), BitVec 32) → sProp 𝕄) :
    iprop(sigRes m K c 12
      ∗ slotAt c 0 fb (opp 12)
      ∗ slotAt c 1 fb (opp 12)
      ∗ outAt c 0 12 fo
      ∗ outAt c 1 12 fo
      ∗ sigRes m K c 13
      ∗ slotAt c 0 fb (opp 13)
      ∗ slotAt c 1 fb (opp 13)
      ∗ outAt c 0 13 fo
      ∗ outAt c 1 13 fo
      ∗ sigRes m K c 14
      ∗ slotAt c 0 fb (opp 14)
      ∗ slotAt c 1 fb (opp 14)
      ∗ outAt c 0 14 fo
      ∗ outAt c 1 14 fo
      ∗ sigRes m K c 15
      ∗ slotAt c 0 fb (opp 15)
      ∗ slotAt c 1 fb (opp 15)
      ∗ outAt c 0 15 fo
      ∗ outAt c 1 15 fo
      ∗ sigRes m K c 16
      ∗ slotAt c 0 fb (opp 16)
      ∗ slotAt c 1 fb (opp 16)
      ∗ outAt c 0 16 fo
      ∗ outAt c 1 16 fo
      ∗ sigRes m K c 17
      ∗ slotAt c 0 fb (opp 17)
      ∗ slotAt c 1 fb (opp 17)
      ∗ outAt c 0 17 fo
      ∗ outAt c 1 17 fo
      ∗ owes (c : Thread nD τ) (O + tallyAt (barCell (fwd c 17)) () 1 + tallyAt (barCell (fwd c 16)) () 1 + tallyAt (barCell (fwd c 15)) () 1 + tallyAt (barCell (fwd c 14)) () 1 + tallyAt (barCell (fwd c 13)) () 1 + tallyAt (barCell (fwd c 12)) () 1) W
      ∗ (∀ r, (owes (c : Thread nD τ) (O) (W)) -∗ Q r))
      ⊢ wp frame (wpE (defs₀ (F := F)) 𝒱₀ c none) Set.univ (k0_part3 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v48 c32_i32_44) Q :=
  part3_spec m K c v2 v48 c32_i32_44 fo fb O W Q

theorem part4_spec' (c : Dev nD) (v2 : BitVec 32) (v72 : BitVec 32) (c32_i32_68 : BitVec 32) (fo : Buf (Elt F) ((c : Thread nD τ).loc cc0_scratch1)) (fb : Buf (Elt F) ((c : Thread nD τ).loc cc0_scratch2)) (O : CellTallies nD τ sig Unit) (W : Waits sig Unit) (Q : (Σ' (v96 : BitVec 32), BitVec 32) → sProp 𝕄) :
    iprop(sigRes m K c 18
      ∗ slotAt c 0 fb (opp 18)
      ∗ slotAt c 1 fb (opp 18)
      ∗ outAt c 0 18 fo
      ∗ outAt c 1 18 fo
      ∗ sigRes m K c 19
      ∗ slotAt c 0 fb (opp 19)
      ∗ slotAt c 1 fb (opp 19)
      ∗ outAt c 0 19 fo
      ∗ outAt c 1 19 fo
      ∗ sigRes m K c 20
      ∗ slotAt c 0 fb (opp 20)
      ∗ slotAt c 1 fb (opp 20)
      ∗ outAt c 0 20 fo
      ∗ outAt c 1 20 fo
      ∗ sigRes m K c 21
      ∗ slotAt c 0 fb (opp 21)
      ∗ slotAt c 1 fb (opp 21)
      ∗ outAt c 0 21 fo
      ∗ outAt c 1 21 fo
      ∗ sigRes m K c 22
      ∗ slotAt c 0 fb (opp 22)
      ∗ slotAt c 1 fb (opp 22)
      ∗ outAt c 0 22 fo
      ∗ outAt c 1 22 fo
      ∗ sigRes m K c 23
      ∗ slotAt c 0 fb (opp 23)
      ∗ slotAt c 1 fb (opp 23)
      ∗ outAt c 0 23 fo
      ∗ outAt c 1 23 fo
      ∗ owes (c : Thread nD τ) (O + tallyAt (barCell (fwd c 23)) () 1 + tallyAt (barCell (fwd c 22)) () 1 + tallyAt (barCell (fwd c 21)) () 1 + tallyAt (barCell (fwd c 20)) () 1 + tallyAt (barCell (fwd c 19)) () 1 + tallyAt (barCell (fwd c 18)) () 1) W
      ∗ (∀ r, (owes (c : Thread nD τ) (O) (W)) -∗ Q r))
      ⊢ wp frame (wpE (defs₀ (F := F)) 𝒱₀ c none) Set.univ (k0_part4 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v72 c32_i32_68) Q :=
  part4_spec m K c v2 v72 c32_i32_68 fo fb O W Q

theorem part5_spec' (c : Dev nD) (v2 : BitVec 32) (v96 : BitVec 32) (c32_i32_92 : BitVec 32) (fo : Buf (Elt F) ((c : Thread nD τ).loc cc0_scratch1)) (fb : Buf (Elt F) ((c : Thread nD τ).loc cc0_scratch2)) (O : CellTallies nD τ sig Unit) (W : Waits sig Unit) (Q : (Σ' (v120 : BitVec 32), BitVec 32) → sProp 𝕄) :
    iprop(sigRes m K c 24
      ∗ slotAt c 0 fb (opp 24)
      ∗ slotAt c 1 fb (opp 24)
      ∗ outAt c 0 24 fo
      ∗ outAt c 1 24 fo
      ∗ sigRes m K c 25
      ∗ slotAt c 0 fb (opp 25)
      ∗ slotAt c 1 fb (opp 25)
      ∗ outAt c 0 25 fo
      ∗ outAt c 1 25 fo
      ∗ sigRes m K c 26
      ∗ slotAt c 0 fb (opp 26)
      ∗ slotAt c 1 fb (opp 26)
      ∗ outAt c 0 26 fo
      ∗ outAt c 1 26 fo
      ∗ sigRes m K c 27
      ∗ slotAt c 0 fb (opp 27)
      ∗ slotAt c 1 fb (opp 27)
      ∗ outAt c 0 27 fo
      ∗ outAt c 1 27 fo
      ∗ sigRes m K c 28
      ∗ slotAt c 0 fb (opp 28)
      ∗ slotAt c 1 fb (opp 28)
      ∗ outAt c 0 28 fo
      ∗ outAt c 1 28 fo
      ∗ sigRes m K c 29
      ∗ slotAt c 0 fb (opp 29)
      ∗ slotAt c 1 fb (opp 29)
      ∗ outAt c 0 29 fo
      ∗ outAt c 1 29 fo
      ∗ owes (c : Thread nD τ) (O + tallyAt (barCell (fwd c 29)) () 1 + tallyAt (barCell (fwd c 28)) () 1 + tallyAt (barCell (fwd c 27)) () 1 + tallyAt (barCell (fwd c 26)) () 1 + tallyAt (barCell (fwd c 25)) () 1 + tallyAt (barCell (fwd c 24)) () 1) W
      ∗ (∀ r, (owes (c : Thread nD τ) (O) (W)) -∗ Q r))
      ⊢ wp frame (wpE (defs₀ (F := F)) 𝒱₀ c none) Set.univ (k0_part5 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v96 c32_i32_92) Q :=
  part5_spec m K c v2 v96 c32_i32_92 fo fb O W Q

theorem part7_spec' (c : Dev nD) (v2 : BitVec 32) (v147 : BitVec 32) (O : CellTallies nD τ sig Unit) (W : Waits sig Unit) (Q : (Σ' (v171 : BitVec 32), BitVec 32) → sProp 𝕄) :
    iprop(copyRes m K rsS rsR c 0 1
      ∗ accSrcAt m c 0 1
      ∗ peerSlotAt c 0 1
      ∗ copyRes m K rsS rsR c 0 2
      ∗ accSrcAt m c 0 2
      ∗ peerSlotAt c 0 2
      ∗ owes (c : Thread nD τ) (O + tallyAt (dmaCell (fwd c 2) rsR 0 2) () Nc + tallyAt (dmaCell (fwd c 1) rsR 0 1) () Nc) W
      ∗ (∀ r, (recvRes m K rsS c 0 1 ∗ recvRes m K rsS c 0 2 ∗ owes (c : Thread nD τ) (O) (W)) -∗ Q r))
      ⊢ wp frame (wpE (defs₀ (F := F)) 𝒱₀ c none) Set.univ (k0_part7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v147) Q :=
  part7_spec m K c v2 v147 O W Q

theorem part8_spec' (c : Dev nD) (v2 : BitVec 32) (v171 : BitVec 32) (c1_i32_173 : BitVec 32) (O : CellTallies nD τ sig Unit) (W : Waits sig Unit) (Q : (PUnit) → sProp 𝕄) :
    iprop(copyRes m K rsS rsR c 0 3
      ∗ accSrcAt m c 0 3
      ∗ peerSlotAt c 0 3
      ∗ copyRes m K rsS rsR c 0 4
      ∗ accSrcAt m c 0 4
      ∗ peerSlotAt c 0 4
      ∗ owes (c : Thread nD τ) (O + tallyAt (dmaCell (fwd c 4) rsR 0 4) () Nc + tallyAt (dmaCell (fwd c 3) rsR 0 3) () Nc) W
      ∗ (∀ r, (recvRes m K rsS c 0 3 ∗ recvRes m K rsS c 0 4 ∗ owes (c : Thread nD τ) (O) (W)) -∗ Q r))
      ⊢ wp frame (wpE (defs₀ (F := F)) 𝒱₀ c none) Set.univ (k0_part8 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v171 c1_i32_173) Q :=
  part8_spec m K c v2 v171 c1_i32_173 O W Q

theorem part9_spec' (c : Dev nD) (v2 : BitVec 32) (O : CellTallies nD τ sig Unit) (W : Waits sig Unit) (Q : (PUnit) → sProp 𝕄) :
    iprop(copyRes m K rsS rsR c 0 5
      ∗ accSrcAt m c 0 5
      ∗ peerSlotAt c 0 5
      ∗ copyRes m K rsS rsR c 0 6
      ∗ accSrcAt m c 0 6
      ∗ peerSlotAt c 0 6
      ∗ owes (c : Thread nD τ) (O + tallyAt (dmaCell (fwd c 6) rsR 0 6) () Nc + tallyAt (dmaCell (fwd c 5) rsR 0 5) () Nc) W
      ∗ (∀ r, (recvRes m K rsS c 0 5 ∗ recvRes m K rsS c 0 6 ∗ owes (c : Thread nD τ) (O) (W)) -∗ Q r))
      ⊢ wp frame (wpE (defs₀ (F := F)) 𝒱₀ c none) Set.univ (k0_part9 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part9_spec m K c v2 O W Q

theorem part10_spec' (c : Dev nD) (v2 : BitVec 32) (O : CellTallies nD τ sig Unit) (W : Waits sig Unit) (Q : (BitVec 32) → sProp 𝕄) :
    iprop(copyRes m K rsS rsR c 0 7
      ∗ accSrcAt m c 0 7
      ∗ peerSlotAt c 0 7
      ∗ copyRes m K rsS rsR c 0 8
      ∗ accSrcAt m c 0 8
      ∗ peerSlotAt c 0 8
      ∗ copyRes m K rsS rsR c 0 9
      ∗ accSrcAt m c 0 9
      ∗ peerSlotAt c 0 9
      ∗ owes (c : Thread nD τ) (O + tallyAt (dmaCell (fwd c 9) rsR 0 9) () Nc + tallyAt (dmaCell (fwd c 8) rsR 0 8) () Nc + tallyAt (dmaCell (fwd c 7) rsR 0 7) () Nc) W
      ∗ (∀ r, (recvRes m K rsS c 0 7 ∗ recvRes m K rsS c 0 8 ∗ recvRes m K rsS c 0 9 ∗ owes (c : Thread nD τ) (O) (W)) -∗ Q r))
      ⊢ wp frame (wpE (defs₀ (F := F)) 𝒱₀ c none) Set.univ (k0_part10 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part10_spec m K c v2 O W Q

theorem part11_spec' (c : Dev nD) (v2 : BitVec 32) (v255 : BitVec 32) (O : CellTallies nD τ sig Unit) (W : Waits sig Unit) (Q : (BitVec 32) → sProp 𝕄) :
    iprop(copyRes m K rsS rsR c 0 10
      ∗ accSrcAt m c 0 10
      ∗ peerSlotAt c 0 10
      ∗ copyRes m K rsS rsR c 0 11
      ∗ accSrcAt m c 0 11
      ∗ peerSlotAt c 0 11
      ∗ owes (c : Thread nD τ) (O + tallyAt (dmaCell (fwd c 11) rsR 0 11) () Nc + tallyAt (dmaCell (fwd c 10) rsR 0 10) () Nc) W
      ∗ (∀ r, (recvRes m K rsS c 0 10 ∗ recvRes m K rsS c 0 11 ∗ owes (c : Thread nD τ) (O) (W)) -∗ Q r))
      ⊢ wp frame (wpE (defs₀ (F := F)) 𝒱₀ c none) Set.univ (k0_part11 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v255) Q :=
  part11_spec m K c v2 v255 O W Q

theorem part12_spec' (c : Dev nD) (v2 : BitVec 32) (v279 : BitVec 32) (O : CellTallies nD τ sig Unit) (W : Waits sig Unit) (Q : (PUnit) → sProp 𝕄) :
    iprop(copyRes m K rsS rsR c 0 12
      ∗ accSrcAt m c 0 12
      ∗ peerSlotAt c 0 12
      ∗ copyRes m K rsS rsR c 0 13
      ∗ accSrcAt m c 0 13
      ∗ peerSlotAt c 0 13
      ∗ owes (c : Thread nD τ) (O + tallyAt (dmaCell (fwd c 13) rsR 0 13) () Nc + tallyAt (dmaCell (fwd c 12) rsR 0 12) () Nc) W
      ∗ (∀ r, (recvRes m K rsS c 0 12 ∗ recvRes m K rsS c 0 13 ∗ owes (c : Thread nD τ) (O) (W)) -∗ Q r))
      ⊢ wp frame (wpE (defs₀ (F := F)) 𝒱₀ c none) Set.univ (k0_part12 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v279) Q :=
  part12_spec m K c v2 v279 O W Q

theorem part13_spec' (c : Dev nD) (v2 : BitVec 32) (O : CellTallies nD τ sig Unit) (W : Waits sig Unit) (Q : (PUnit) → sProp 𝕄) :
    iprop(copyRes m K rsS rsR c 0 14
      ∗ accSrcAt m c 0 14
      ∗ peerSlotAt c 0 14
      ∗ copyRes m K rsS rsR c 0 15
      ∗ accSrcAt m c 0 15
      ∗ peerSlotAt c 0 15
      ∗ owes (c : Thread nD τ) (O + tallyAt (dmaCell (fwd c 15) rsR 0 15) () Nc + tallyAt (dmaCell (fwd c 14) rsR 0 14) () Nc) W
      ∗ (∀ r, (recvRes m K rsS c 0 14 ∗ recvRes m K rsS c 0 15 ∗ owes (c : Thread nD τ) (O) (W)) -∗ Q r))
      ⊢ wp frame (wpE (defs₀ (F := F)) 𝒱₀ c none) Set.univ (k0_part13 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part13_spec m K c v2 O W Q

theorem part14_spec' (c : Dev nD) (v2 : BitVec 32) (O : CellTallies nD τ sig Unit) (W : Waits sig Unit) (Q : (BitVec 32) → sProp 𝕄) :
    iprop(copyRes m K rsS rsR c 0 16
      ∗ accSrcAt m c 0 16
      ∗ peerSlotAt c 0 16
      ∗ copyRes m K rsS rsR c 0 17
      ∗ accSrcAt m c 0 17
      ∗ peerSlotAt c 0 17
      ∗ copyRes m K rsS rsR c 0 18
      ∗ accSrcAt m c 0 18
      ∗ peerSlotAt c 0 18
      ∗ owes (c : Thread nD τ) (O + tallyAt (dmaCell (fwd c 18) rsR 0 18) () Nc + tallyAt (dmaCell (fwd c 17) rsR 0 17) () Nc + tallyAt (dmaCell (fwd c 16) rsR 0 16) () Nc) W
      ∗ (∀ r, (recvRes m K rsS c 0 16 ∗ recvRes m K rsS c 0 17 ∗ recvRes m K rsS c 0 18 ∗ owes (c : Thread nD τ) (O) (W)) -∗ Q r))
      ⊢ wp frame (wpE (defs₀ (F := F)) 𝒱₀ c none) Set.univ (k0_part14 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part14_spec m K c v2 O W Q

theorem part15_spec' (c : Dev nD) (v2 : BitVec 32) (c19_i32_388 : BitVec 32) (O : CellTallies nD τ sig Unit) (W : Waits sig Unit) (Q : (BitVec 32) → sProp 𝕄) :
    iprop(copyRes m K rsS rsR c 0 19
      ∗ accSrcAt m c 0 19
      ∗ peerSlotAt c 0 19
      ∗ copyRes m K rsS rsR c 0 20
      ∗ accSrcAt m c 0 20
      ∗ peerSlotAt c 0 20
      ∗ owes (c : Thread nD τ) (O + tallyAt (dmaCell (fwd c 20) rsR 0 20) () Nc + tallyAt (dmaCell (fwd c 19) rsR 0 19) () Nc) W
      ∗ (∀ r, (recvRes m K rsS c 0 19 ∗ recvRes m K rsS c 0 20 ∗ owes (c : Thread nD τ) (O) (W)) -∗ Q r))
      ⊢ wp frame (wpE (defs₀ (F := F)) 𝒱₀ c none) Set.univ (k0_part15 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 c19_i32_388) Q :=
  part15_spec m K c v2 c19_i32_388 O W Q

theorem part16_spec' (c : Dev nD) (v2 : BitVec 32) (v387 : BitVec 32) (O : CellTallies nD τ sig Unit) (W : Waits sig Unit) (Q : (Σ' (v411 : BitVec 32), BitVec 32) → sProp 𝕄) :
    iprop(copyRes m K rsS rsR c 0 21
      ∗ accSrcAt m c 0 21
      ∗ peerSlotAt c 0 21
      ∗ copyRes m K rsS rsR c 0 22
      ∗ accSrcAt m c 0 22
      ∗ peerSlotAt c 0 22
      ∗ owes (c : Thread nD τ) (O + tallyAt (dmaCell (fwd c 22) rsR 0 22) () Nc + tallyAt (dmaCell (fwd c 21) rsR 0 21) () Nc) W
      ∗ (∀ r, (recvRes m K rsS c 0 21 ∗ recvRes m K rsS c 0 22 ∗ owes (c : Thread nD τ) (O) (W)) -∗ Q r))
      ⊢ wp frame (wpE (defs₀ (F := F)) 𝒱₀ c none) Set.univ (k0_part16 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v387) Q :=
  part16_spec m K c v2 v387 O W Q

theorem part17_spec' (c : Dev nD) (v2 : BitVec 32) (v411 : BitVec 32) (c1_i32_453 : BitVec 32) (O : CellTallies nD τ sig Unit) (W : Waits sig Unit) (Q : (PUnit) → sProp 𝕄) :
    iprop(copyRes m K rsS rsR c 0 23
      ∗ accSrcAt m c 0 23
      ∗ peerSlotAt c 0 23
      ∗ copyRes m K rsS rsR c 0 24
      ∗ accSrcAt m c 0 24
      ∗ peerSlotAt c 0 24
      ∗ owes (c : Thread nD τ) (O + tallyAt (dmaCell (fwd c 24) rsR 0 24) () Nc + tallyAt (dmaCell (fwd c 23) rsR 0 23) () Nc) W
      ∗ (∀ r, (recvRes m K rsS c 0 23 ∗ recvRes m K rsS c 0 24 ∗ owes (c : Thread nD τ) (O) (W)) -∗ Q r))
      ⊢ wp frame (wpE (defs₀ (F := F)) 𝒱₀ c none) Set.univ (k0_part17 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v411 c1_i32_453) Q :=
  part17_spec m K c v2 v411 c1_i32_453 O W Q

theorem part18_spec' (c : Dev nD) (v2 : BitVec 32) (O : CellTallies nD τ sig Unit) (W : Waits sig Unit) (Q : (PUnit) → sProp 𝕄) :
    iprop(copyRes m K rsS rsR c 0 25
      ∗ accSrcAt m c 0 25
      ∗ peerSlotAt c 0 25
      ∗ copyRes m K rsS rsR c 0 26
      ∗ accSrcAt m c 0 26
      ∗ peerSlotAt c 0 26
      ∗ owes (c : Thread nD τ) (O + tallyAt (dmaCell (fwd c 26) rsR 0 26) () Nc + tallyAt (dmaCell (fwd c 25) rsR 0 25) () Nc) W
      ∗ (∀ r, (recvRes m K rsS c 0 25 ∗ recvRes m K rsS c 0 26 ∗ owes (c : Thread nD τ) (O) (W)) -∗ Q r))
      ⊢ wp frame (wpE (defs₀ (F := F)) 𝒱₀ c none) Set.univ (k0_part18 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part18_spec m K c v2 O W Q

theorem part19_spec' (c : Dev nD) (v2 : BitVec 32) (O : CellTallies nD τ sig Unit) (W : Waits sig Unit) (Q : (BitVec 32) → sProp 𝕄) :
    iprop(copyRes m K rsS rsR c 0 27
      ∗ accSrcAt m c 0 27
      ∗ peerSlotAt c 0 27
      ∗ copyRes m K rsS rsR c 0 28
      ∗ accSrcAt m c 0 28
      ∗ peerSlotAt c 0 28
      ∗ copyRes m K rsS rsR c 0 29
      ∗ accSrcAt m c 0 29
      ∗ peerSlotAt c 0 29
      ∗ owes (c : Thread nD τ) (O + tallyAt (dmaCell (fwd c 29) rsR 0 29) () Nc + tallyAt (dmaCell (fwd c 28) rsR 0 28) () Nc + tallyAt (dmaCell (fwd c 27) rsR 0 27) () Nc) W
      ∗ (∀ r, (recvRes m K rsS c 0 27 ∗ recvRes m K rsS c 0 28 ∗ recvRes m K rsS c 0 29 ∗ owes (c : Thread nD τ) (O) (W)) -∗ Q r))
      ⊢ wp frame (wpE (defs₀ (F := F)) 𝒱₀ c none) Set.univ (k0_part19 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part19_spec m K c v2 O W Q

theorem part22_spec' (c : Dev nD) (v2 : BitVec 32) (O : CellTallies nD τ sig Unit) (W : Waits sig Unit) (Q : (PUnit) → sProp 𝕄) :
    iprop(copyRes m K rsS rsR c 1 2
      ∗ accSrcAt m c 1 2
      ∗ peerSlotAt c 1 2
      ∗ copyRes m K rsS rsR c 1 3
      ∗ accSrcAt m c 1 3
      ∗ peerSlotAt c 1 3
      ∗ owes (c : Thread nD τ) (O + tallyAt (dmaCell (fwd c 3) rsR 1 3) () Nc + tallyAt (dmaCell (fwd c 2) rsR 1 2) () Nc) W
      ∗ (∀ r, (recvRes m K rsS c 1 2 ∗ recvRes m K rsS c 1 3 ∗ owes (c : Thread nD τ) (O) (W)) -∗ Q r))
      ⊢ wp frame (wpE (defs₀ (F := F)) 𝒱₀ c none) Set.univ (k0_part22 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part22_spec m K c v2 O W Q

theorem part23_spec' (c : Dev nD) (v2 : BitVec 32) (O : CellTallies nD τ sig Unit) (W : Waits sig Unit) (Q : (Σ' (v603 : BitVec 32), BitVec 32) → sProp 𝕄) :
    iprop(copyRes m K rsS rsR c 1 4
      ∗ accSrcAt m c 1 4
      ∗ peerSlotAt c 1 4
      ∗ copyRes m K rsS rsR c 1 5
      ∗ accSrcAt m c 1 5
      ∗ peerSlotAt c 1 5
      ∗ copyRes m K rsS rsR c 1 6
      ∗ accSrcAt m c 1 6
      ∗ peerSlotAt c 1 6
      ∗ owes (c : Thread nD τ) (O + tallyAt (dmaCell (fwd c 6) rsR 1 6) () Nc + tallyAt (dmaCell (fwd c 5) rsR 1 5) () Nc + tallyAt (dmaCell (fwd c 4) rsR 1 4) () Nc) W
      ∗ (∀ r, (recvRes m K rsS c 1 4 ∗ recvRes m K rsS c 1 5 ∗ recvRes m K rsS c 1 6 ∗ owes (c : Thread nD τ) (O) (W)) -∗ Q r))
      ⊢ wp frame (wpE (defs₀ (F := F)) 𝒱₀ c none) Set.univ (k0_part23 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part23_spec m K c v2 O W Q

theorem part24_spec' (c : Dev nD) (v2 : BitVec 32) (v603 : BitVec 32) (c32_i32_662 : BitVec 32) (O : CellTallies nD τ sig Unit) (W : Waits sig Unit) (Q : (BitVec 32) → sProp 𝕄) :
    iprop(copyRes m K rsS rsR c 1 7
      ∗ accSrcAt m c 1 7
      ∗ peerSlotAt c 1 7
      ∗ copyRes m K rsS rsR c 1 8
      ∗ accSrcAt m c 1 8
      ∗ peerSlotAt c 1 8
      ∗ owes (c : Thread nD τ) (O + tallyAt (dmaCell (fwd c 8) rsR 1 8) () Nc + tallyAt (dmaCell (fwd c 7) rsR 1 7) () Nc) W
      ∗ (∀ r, (recvRes m K rsS c 1 7 ∗ recvRes m K rsS c 1 8 ∗ owes (c : Thread nD τ) (O) (W)) -∗ Q r))
      ⊢ wp frame (wpE (defs₀ (F := F)) 𝒱₀ c none) Set.univ (k0_part24 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v603 c32_i32_662) Q :=
  part24_spec m K c v2 v603 c32_i32_662 O W Q

theorem part25_spec' (c : Dev nD) (v2 : BitVec 32) (v627 : BitVec 32) (O : CellTallies nD τ sig Unit) (W : Waits sig Unit) (Q : (PUnit) → sProp 𝕄) :
    iprop(copyRes m K rsS rsR c 1 9
      ∗ accSrcAt m c 1 9
      ∗ peerSlotAt c 1 9
      ∗ copyRes m K rsS rsR c 1 10
      ∗ accSrcAt m c 1 10
      ∗ peerSlotAt c 1 10
      ∗ owes (c : Thread nD τ) (O + tallyAt (dmaCell (fwd c 10) rsR 1 10) () Nc + tallyAt (dmaCell (fwd c 9) rsR 1 9) () Nc) W
      ∗ (∀ r, (recvRes m K rsS c 1 9 ∗ recvRes m K rsS c 1 10 ∗ owes (c : Thread nD τ) (O) (W)) -∗ Q r))
      ⊢ wp frame (wpE (defs₀ (F := F)) 𝒱₀ c none) Set.univ (k0_part25 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v627) Q :=
  part25_spec m K c v2 v627 O W Q

theorem part26_spec' (c : Dev nD) (v2 : BitVec 32) (O : CellTallies nD τ sig Unit) (W : Waits sig Unit) (Q : (PUnit) → sProp 𝕄) :
    iprop(copyRes m K rsS rsR c 1 11
      ∗ accSrcAt m c 1 11
      ∗ peerSlotAt c 1 11
      ∗ copyRes m K rsS rsR c 1 12
      ∗ accSrcAt m c 1 12
      ∗ peerSlotAt c 1 12
      ∗ owes (c : Thread nD τ) (O + tallyAt (dmaCell (fwd c 12) rsR 1 12) () Nc + tallyAt (dmaCell (fwd c 11) rsR 1 11) () Nc) W
      ∗ (∀ r, (recvRes m K rsS c 1 11 ∗ recvRes m K rsS c 1 12 ∗ owes (c : Thread nD τ) (O) (W)) -∗ Q r))
      ⊢ wp frame (wpE (defs₀ (F := F)) 𝒱₀ c none) Set.univ (k0_part26 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part26_spec m K c v2 O W Q

theorem part27_spec' (c : Dev nD) (v2 : BitVec 32) (O : CellTallies nD τ sig Unit) (W : Waits sig Unit) (Q : (BitVec 32) → sProp 𝕄) :
    iprop(copyRes m K rsS rsR c 1 13
      ∗ accSrcAt m c 1 13
      ∗ peerSlotAt c 1 13
      ∗ copyRes m K rsS rsR c 1 14
      ∗ accSrcAt m c 1 14
      ∗ peerSlotAt c 1 14
      ∗ copyRes m K rsS rsR c 1 15
      ∗ accSrcAt m c 1 15
      ∗ peerSlotAt c 1 15
      ∗ owes (c : Thread nD τ) (O + tallyAt (dmaCell (fwd c 15) rsR 1 15) () Nc + tallyAt (dmaCell (fwd c 14) rsR 1 14) () Nc + tallyAt (dmaCell (fwd c 13) rsR 1 13) () Nc) W
      ∗ (∀ r, (recvRes m K rsS c 1 13 ∗ recvRes m K rsS c 1 14 ∗ recvRes m K rsS c 1 15 ∗ owes (c : Thread nD τ) (O) (W)) -∗ Q r))
      ⊢ wp frame (wpE (defs₀ (F := F)) 𝒱₀ c none) Set.univ (k0_part27 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part27_spec m K c v2 O W Q

theorem part28_spec' (c : Dev nD) (v2 : BitVec 32) (v710 : BitVec 32) (O : CellTallies nD τ sig Unit) (W : Waits sig Unit) (Q : (BitVec 32) → sProp 𝕄) :
    iprop(copyRes m K rsS rsR c 1 16
      ∗ accSrcAt m c 1 16
      ∗ peerSlotAt c 1 16
      ∗ copyRes m K rsS rsR c 1 17
      ∗ accSrcAt m c 1 17
      ∗ peerSlotAt c 1 17
      ∗ owes (c : Thread nD τ) (O + tallyAt (dmaCell (fwd c 17) rsR 1 17) () Nc + tallyAt (dmaCell (fwd c 16) rsR 1 16) () Nc) W
      ∗ (∀ r, (recvRes m K rsS c 1 16 ∗ recvRes m K rsS c 1 17 ∗ owes (c : Thread nD τ) (O) (W)) -∗ Q r))
      ⊢ wp frame (wpE (defs₀ (F := F)) 𝒱₀ c none) Set.univ (k0_part28 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v710) Q :=
  part28_spec m K c v2 v710 O W Q

theorem part29_spec' (c : Dev nD) (v2 : BitVec 32) (v735 : BitVec 32) (O : CellTallies nD τ sig Unit) (W : Waits sig Unit) (Q : (BitVec 32) → sProp 𝕄) :
    iprop(copyRes m K rsS rsR c 1 18
      ∗ accSrcAt m c 1 18
      ∗ peerSlotAt c 1 18
      ∗ copyRes m K rsS rsR c 1 19
      ∗ accSrcAt m c 1 19
      ∗ peerSlotAt c 1 19
      ∗ owes (c : Thread nD τ) (O + tallyAt (dmaCell (fwd c 19) rsR 1 19) () Nc + tallyAt (dmaCell (fwd c 18) rsR 1 18) () Nc) W
      ∗ (∀ r, (recvRes m K rsS c 1 18 ∗ recvRes m K rsS c 1 19 ∗ owes (c : Thread nD τ) (O) (W)) -∗ Q r))
      ⊢ wp frame (wpE (defs₀ (F := F)) 𝒱₀ c none) Set.univ (k0_part29 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v735) Q :=
  part29_spec m K c v2 v735 O W Q

theorem part30_spec' (c : Dev nD) (v2 : BitVec 32) (v761 : BitVec 32) (O : CellTallies nD τ sig Unit) (W : Waits sig Unit) (Q : (PUnit) → sProp 𝕄) :
    iprop(copyRes m K rsS rsR c 1 20
      ∗ accSrcAt m c 1 20
      ∗ peerSlotAt c 1 20
      ∗ copyRes m K rsS rsR c 1 21
      ∗ accSrcAt m c 1 21
      ∗ peerSlotAt c 1 21
      ∗ owes (c : Thread nD τ) (O + tallyAt (dmaCell (fwd c 21) rsR 1 21) () Nc + tallyAt (dmaCell (fwd c 20) rsR 1 20) () Nc) W
      ∗ (∀ r, (recvRes m K rsS c 1 20 ∗ recvRes m K rsS c 1 21 ∗ owes (c : Thread nD τ) (O) (W)) -∗ Q r))
      ⊢ wp frame (wpE (defs₀ (F := F)) 𝒱₀ c none) Set.univ (k0_part30 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v761) Q :=
  part30_spec m K c v2 v761 O W Q

theorem part31_spec' (c : Dev nD) (v2 : BitVec 32) (O : CellTallies nD τ sig Unit) (W : Waits sig Unit) (Q : (PUnit) → sProp 𝕄) :
    iprop(copyRes m K rsS rsR c 1 22
      ∗ accSrcAt m c 1 22
      ∗ peerSlotAt c 1 22
      ∗ copyRes m K rsS rsR c 1 23
      ∗ accSrcAt m c 1 23
      ∗ peerSlotAt c 1 23
      ∗ owes (c : Thread nD τ) (O + tallyAt (dmaCell (fwd c 23) rsR 1 23) () Nc + tallyAt (dmaCell (fwd c 22) rsR 1 22) () Nc) W
      ∗ (∀ r, (recvRes m K rsS c 1 22 ∗ recvRes m K rsS c 1 23 ∗ owes (c : Thread nD τ) (O) (W)) -∗ Q r))
      ⊢ wp frame (wpE (defs₀ (F := F)) 𝒱₀ c none) Set.univ (k0_part31 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part31_spec m K c v2 O W Q

theorem part32_spec' (c : Dev nD) (v2 : BitVec 32) (O : CellTallies nD τ sig Unit) (W : Waits sig Unit) (Q : (Σ' (v843 : BitVec 32), BitVec 32) → sProp 𝕄) :
    iprop(copyRes m K rsS rsR c 1 24
      ∗ accSrcAt m c 1 24
      ∗ peerSlotAt c 1 24
      ∗ copyRes m K rsS rsR c 1 25
      ∗ accSrcAt m c 1 25
      ∗ peerSlotAt c 1 25
      ∗ copyRes m K rsS rsR c 1 26
      ∗ accSrcAt m c 1 26
      ∗ peerSlotAt c 1 26
      ∗ owes (c : Thread nD τ) (O + tallyAt (dmaCell (fwd c 26) rsR 1 26) () Nc + tallyAt (dmaCell (fwd c 25) rsR 1 25) () Nc + tallyAt (dmaCell (fwd c 24) rsR 1 24) () Nc) W
      ∗ (∀ r, (recvRes m K rsS c 1 24 ∗ recvRes m K rsS c 1 25 ∗ recvRes m K rsS c 1 26 ∗ owes (c : Thread nD τ) (O) (W)) -∗ Q r))
      ⊢ wp frame (wpE (defs₀ (F := F)) 𝒱₀ c none) Set.univ (k0_part32 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part32_spec m K c v2 O W Q

theorem part33_spec' (c : Dev nD) (v2 : BitVec 32) (v843 : BitVec 32) (c32_i32_942 : BitVec 32) (O : CellTallies nD τ sig Unit) (W : Waits sig Unit) (Q : (BitVec 32) → sProp 𝕄) :
    iprop(copyRes m K rsS rsR c 1 27
      ∗ accSrcAt m c 1 27
      ∗ peerSlotAt c 1 27
      ∗ copyRes m K rsS rsR c 1 28
      ∗ accSrcAt m c 1 28
      ∗ peerSlotAt c 1 28
      ∗ owes (c : Thread nD τ) (O + tallyAt (dmaCell (fwd c 28) rsR 1 28) () Nc + tallyAt (dmaCell (fwd c 27) rsR 1 27) () Nc) W
      ∗ (∀ r, (recvRes m K rsS c 1 27 ∗ recvRes m K rsS c 1 28 ∗ owes (c : Thread nD τ) (O) (W)) -∗ Q r))
      ⊢ wp frame (wpE (defs₀ (F := F)) 𝒱₀ c none) Set.univ (k0_part33 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v843 c32_i32_942) Q :=
  part33_spec m K c v2 v843 c32_i32_942 O W Q

theorem part34_spec' (c : Dev nD) (v2 : BitVec 32) (v867 : BitVec 32) (O : CellTallies nD τ sig Unit) (W : Waits sig Unit) (Q : (PUnit) → sProp 𝕄) :
    iprop(copyRes m K rsS rsR c 1 29
      ∗ accSrcAt m c 1 29
      ∗ peerSlotAt c 1 29
      ∗ copyRes m K rsS rsR c 1 30
      ∗ accSrcAt m c 1 30
      ∗ peerSlotAt c 1 30
      ∗ owes (c : Thread nD τ) (O + tallyAt (dmaCell (fwd c 30) rsR 1 30) () Nc + tallyAt (dmaCell (fwd c 29) rsR 1 29) () Nc) W
      ∗ (∀ r, (recvRes m K rsS c 1 29 ∗ recvRes m K rsS c 1 30 ∗ owes (c : Thread nD τ) (O) (W)) -∗ Q r))
      ⊢ wp frame (wpE (defs₀ (F := F)) 𝒱₀ c none) Set.univ (k0_part34 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v867) Q :=
  part34_spec m K c v2 v867 O W Q

theorem part35_spec' (c : Dev nD) (v2 : BitVec 32) (O : CellTallies nD τ sig Unit) (hmw1 : (levAts L lv : sProp 𝕄) ⊢ MayWait (c : Thread nD τ) (.dma (semAt (arr rsR) 0 1)) () O) (W : Waits sig Unit) (Q : (PUnit) → sProp 𝕄) :
    iprop(copyRes m K rsS rsR c 1 31
      ∗ accSrcAt m c 1 31
      ∗ peerSlotAt c 1 31
      ∗ recvRes m K rsR c 0 1
      ∗ levAts L lv
      ∗ owes (c : Thread nD τ) (O + tallyAt (dmaCell (fwd c 31) rsR 1 31) () Nc) W
      ∗ (∀ r, (recvRes m K rsS c 1 31 ∗ gotRsR m c 0 1 ∗ closedAt m K c 0 1 rsR ∗ owes (c : Thread nD τ) (O) (insert (SemLoc.dma (semAt (arr rsR) 0 1), ()) (W))) -∗ Q r))
      ⊢ wp frame (wpE (defs₀ (F := F)) 𝒱₀ c none) Set.univ (k0_part35 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part35_spec m K c v2 O hmw1 W Q

theorem part36_spec' (c : Dev nD) (v2 : BitVec 32) (W : Waits sig Unit) (Q : (PUnit) → sProp 𝕄) :
    iprop(recvRes m K rsR c 0 2
      ∗ recvRes m K rsR c 0 3
      ∗ levAts L lv
      ∗ owes (c : Thread nD τ) (owedAfter c 93) W
      ∗ (∀ r, (gotRsR m c 0 2 ∗ closedAt m K c 0 2 rsR ∗ gotRsR m c 0 3 ∗ closedAt m K c 0 3 rsR ∗ owes (c : Thread nD τ) (owedAfter c 93) (insert (SemLoc.dma (semAt (arr rsR) 0 3), ()) (insert (SemLoc.dma (semAt (arr rsR) 0 2), ()) (W)))) -∗ Q r))
      ⊢ wp frame (wpE (defs₀ (F := F)) 𝒱₀ c none) Set.univ (k0_part36 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part36_spec m K c v2 W Q

theorem part37_spec' (c : Dev nD) (v2 : BitVec 32) (W : Waits sig Unit) (Q : (PUnit) → sProp 𝕄) :
    iprop(recvRes m K rsR c 0 4
      ∗ recvRes m K rsR c 0 5
      ∗ levAts L lv
      ∗ owes (c : Thread nD τ) (owedAfter c 93) W
      ∗ (∀ r, (gotRsR m c 0 4 ∗ closedAt m K c 0 4 rsR ∗ gotRsR m c 0 5 ∗ closedAt m K c 0 5 rsR ∗ owes (c : Thread nD τ) (owedAfter c 93) (insert (SemLoc.dma (semAt (arr rsR) 0 5), ()) (insert (SemLoc.dma (semAt (arr rsR) 0 4), ()) (W)))) -∗ Q r))
      ⊢ wp frame (wpE (defs₀ (F := F)) 𝒱₀ c none) Set.univ (k0_part37 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part37_spec m K c v2 W Q

theorem part38_spec' (c : Dev nD) (v2 : BitVec 32) (W : Waits sig Unit) (Q : (PUnit) → sProp 𝕄) :
    iprop(recvRes m K rsR c 0 6
      ∗ recvRes m K rsR c 0 7
      ∗ levAts L lv
      ∗ owes (c : Thread nD τ) (owedAfter c 93) W
      ∗ (∀ r, (gotRsR m c 0 6 ∗ closedAt m K c 0 6 rsR ∗ gotRsR m c 0 7 ∗ closedAt m K c 0 7 rsR ∗ owes (c : Thread nD τ) (owedAfter c 93) (insert (SemLoc.dma (semAt (arr rsR) 0 7), ()) (insert (SemLoc.dma (semAt (arr rsR) 0 6), ()) (W)))) -∗ Q r))
      ⊢ wp frame (wpE (defs₀ (F := F)) 𝒱₀ c none) Set.univ (k0_part38 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part38_spec m K c v2 W Q

theorem part39_spec' (c : Dev nD) (v2 : BitVec 32) (W : Waits sig Unit) (Q : (PUnit) → sProp 𝕄) :
    iprop(recvRes m K rsR c 0 8
      ∗ recvRes m K rsR c 0 9
      ∗ recvRes m K rsR c 0 10
      ∗ levAts L lv
      ∗ owes (c : Thread nD τ) (owedAfter c 93) W
      ∗ (∀ r, (gotRsR m c 0 8 ∗ closedAt m K c 0 8 rsR ∗ gotRsR m c 0 9 ∗ closedAt m K c 0 9 rsR ∗ gotRsR m c 0 10 ∗ closedAt m K c 0 10 rsR ∗ owes (c : Thread nD τ) (owedAfter c 93) (insert (SemLoc.dma (semAt (arr rsR) 0 10), ()) (insert (SemLoc.dma (semAt (arr rsR) 0 9), ()) (insert (SemLoc.dma (semAt (arr rsR) 0 8), ()) (W))))) -∗ Q r))
      ⊢ wp frame (wpE (defs₀ (F := F)) 𝒱₀ c none) Set.univ (k0_part39 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part39_spec m K c v2 W Q

theorem part40_spec' (c : Dev nD) (v2 : BitVec 32) (W : Waits sig Unit) (Q : (BitVec 32) → sProp 𝕄) :
    iprop(recvRes m K rsR c 0 11
      ∗ recvRes m K rsR c 0 12
      ∗ levAts L lv
      ∗ owes (c : Thread nD τ) (owedAfter c 93) W
      ∗ (∀ r, (gotRsR m c 0 11 ∗ closedAt m K c 0 11 rsR ∗ gotRsR m c 0 12 ∗ closedAt m K c 0 12 rsR ∗ owes (c : Thread nD τ) (owedAfter c 93) (insert (SemLoc.dma (semAt (arr rsR) 0 12), ()) (insert (SemLoc.dma (semAt (arr rsR) 0 11), ()) (W)))) -∗ Q r))
      ⊢ wp frame (wpE (defs₀ (F := F)) 𝒱₀ c none) Set.univ (k0_part40 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part40_spec m K c v2 W Q

theorem part41_spec' (c : Dev nD) (v2 : BitVec 32) (v1034 : BitVec 32) (W : Waits sig Unit) (Q : (BitVec 32) → sProp 𝕄) :
    iprop(recvRes m K rsR c 0 13
      ∗ recvRes m K rsR c 0 14
      ∗ levAts L lv
      ∗ owes (c : Thread nD τ) (owedAfter c 93) W
      ∗ (∀ r, (gotRsR m c 0 13 ∗ closedAt m K c 0 13 rsR ∗ gotRsR m c 0 14 ∗ closedAt m K c 0 14 rsR ∗ owes (c : Thread nD τ) (owedAfter c 93) (insert (SemLoc.dma (semAt (arr rsR) 0 14), ()) (insert (SemLoc.dma (semAt (arr rsR) 0 13), ()) (W)))) -∗ Q r))
      ⊢ wp frame (wpE (defs₀ (F := F)) 𝒱₀ c none) Set.univ (k0_part41 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1034) Q :=
  part41_spec m K c v2 v1034 W Q

theorem part42_spec' (c : Dev nD) (v2 : BitVec 32) (v1057 : BitVec 32) (W : Waits sig Unit) (Q : (BitVec 32) → sProp 𝕄) :
    iprop(recvRes m K rsR c 0 15
      ∗ recvRes m K rsR c 0 16
      ∗ levAts L lv
      ∗ owes (c : Thread nD τ) (owedAfter c 93) W
      ∗ (∀ r, (gotRsR m c 0 15 ∗ closedAt m K c 0 15 rsR ∗ gotRsR m c 0 16 ∗ closedAt m K c 0 16 rsR ∗ owes (c : Thread nD τ) (owedAfter c 93) (insert (SemLoc.dma (semAt (arr rsR) 0 16), ()) (insert (SemLoc.dma (semAt (arr rsR) 0 15), ()) (W)))) -∗ Q r))
      ⊢ wp frame (wpE (defs₀ (F := F)) 𝒱₀ c none) Set.univ (k0_part42 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1057) Q :=
  part42_spec m K c v2 v1057 W Q

theorem part43_spec' (c : Dev nD) (v2 : BitVec 32) (v1080 : BitVec 32) (W : Waits sig Unit) (Q : (BitVec 32) → sProp 𝕄) :
    iprop(recvRes m K rsR c 0 17
      ∗ recvRes m K rsR c 0 18
      ∗ levAts L lv
      ∗ owes (c : Thread nD τ) (owedAfter c 93) W
      ∗ (∀ r, (gotRsR m c 0 17 ∗ closedAt m K c 0 17 rsR ∗ gotRsR m c 0 18 ∗ closedAt m K c 0 18 rsR ∗ owes (c : Thread nD τ) (owedAfter c 93) (insert (SemLoc.dma (semAt (arr rsR) 0 18), ()) (insert (SemLoc.dma (semAt (arr rsR) 0 17), ()) (W)))) -∗ Q r))
      ⊢ wp frame (wpE (defs₀ (F := F)) 𝒱₀ c none) Set.univ (k0_part43 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1080) Q :=
  part43_spec m K c v2 v1080 W Q

theorem part44_spec' (c : Dev nD) (v2 : BitVec 32) (v1102 : BitVec 32) (W : Waits sig Unit) (Q : (BitVec 32) → sProp 𝕄) :
    iprop(recvRes m K rsR c 0 19
      ∗ recvRes m K rsR c 0 20
      ∗ levAts L lv
      ∗ owes (c : Thread nD τ) (owedAfter c 93) W
      ∗ (∀ r, (gotRsR m c 0 19 ∗ closedAt m K c 0 19 rsR ∗ gotRsR m c 0 20 ∗ closedAt m K c 0 20 rsR ∗ owes (c : Thread nD τ) (owedAfter c 93) (insert (SemLoc.dma (semAt (arr rsR) 0 20), ()) (insert (SemLoc.dma (semAt (arr rsR) 0 19), ()) (W)))) -∗ Q r))
      ⊢ wp frame (wpE (defs₀ (F := F)) 𝒱₀ c none) Set.univ (k0_part44 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1102) Q :=
  part44_spec m K c v2 v1102 W Q

theorem part45_spec' (c : Dev nD) (v2 : BitVec 32) (v1124 : BitVec 32) (W : Waits sig Unit) (Q : (BitVec 32) → sProp 𝕄) :
    iprop(recvRes m K rsR c 0 21
      ∗ recvRes m K rsR c 0 22
      ∗ levAts L lv
      ∗ owes (c : Thread nD τ) (owedAfter c 93) W
      ∗ (∀ r, (gotRsR m c 0 21 ∗ closedAt m K c 0 21 rsR ∗ gotRsR m c 0 22 ∗ closedAt m K c 0 22 rsR ∗ owes (c : Thread nD τ) (owedAfter c 93) (insert (SemLoc.dma (semAt (arr rsR) 0 22), ()) (insert (SemLoc.dma (semAt (arr rsR) 0 21), ()) (W)))) -∗ Q r))
      ⊢ wp frame (wpE (defs₀ (F := F)) 𝒱₀ c none) Set.univ (k0_part45 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1124) Q :=
  part45_spec m K c v2 v1124 W Q

theorem part46_spec' (c : Dev nD) (v2 : BitVec 32) (v1146 : BitVec 32) (W : Waits sig Unit) (Q : (BitVec 32) → sProp 𝕄) :
    iprop(recvRes m K rsR c 0 23
      ∗ recvRes m K rsR c 0 24
      ∗ levAts L lv
      ∗ owes (c : Thread nD τ) (owedAfter c 93) W
      ∗ (∀ r, (gotRsR m c 0 23 ∗ closedAt m K c 0 23 rsR ∗ gotRsR m c 0 24 ∗ closedAt m K c 0 24 rsR ∗ owes (c : Thread nD τ) (owedAfter c 93) (insert (SemLoc.dma (semAt (arr rsR) 0 24), ()) (insert (SemLoc.dma (semAt (arr rsR) 0 23), ()) (W)))) -∗ Q r))
      ⊢ wp frame (wpE (defs₀ (F := F)) 𝒱₀ c none) Set.univ (k0_part46 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1146) Q :=
  part46_spec m K c v2 v1146 W Q

theorem part47_spec' (c : Dev nD) (v2 : BitVec 32) (v1168 : BitVec 32) (W : Waits sig Unit) (Q : (BitVec 32) → sProp 𝕄) :
    iprop(recvRes m K rsR c 0 25
      ∗ recvRes m K rsR c 0 26
      ∗ levAts L lv
      ∗ owes (c : Thread nD τ) (owedAfter c 93) W
      ∗ (∀ r, (gotRsR m c 0 25 ∗ closedAt m K c 0 25 rsR ∗ gotRsR m c 0 26 ∗ closedAt m K c 0 26 rsR ∗ owes (c : Thread nD τ) (owedAfter c 93) (insert (SemLoc.dma (semAt (arr rsR) 0 26), ()) (insert (SemLoc.dma (semAt (arr rsR) 0 25), ()) (W)))) -∗ Q r))
      ⊢ wp frame (wpE (defs₀ (F := F)) 𝒱₀ c none) Set.univ (k0_part47 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1168) Q :=
  part47_spec m K c v2 v1168 W Q

theorem part48_spec' (c : Dev nD) (v2 : BitVec 32) (v1191 : BitVec 32) (W : Waits sig Unit) (Q : (PUnit) → sProp 𝕄) :
    iprop(recvRes m K rsR c 0 27
      ∗ recvRes m K rsR c 0 28
      ∗ levAts L lv
      ∗ owes (c : Thread nD τ) (owedAfter c 93) W
      ∗ (∀ r, (gotRsR m c 0 27 ∗ closedAt m K c 0 27 rsR ∗ gotRsR m c 0 28 ∗ closedAt m K c 0 28 rsR ∗ owes (c : Thread nD τ) (owedAfter c 93) (insert (SemLoc.dma (semAt (arr rsR) 0 28), ()) (insert (SemLoc.dma (semAt (arr rsR) 0 27), ()) (W)))) -∗ Q r))
      ⊢ wp frame (wpE (defs₀ (F := F)) 𝒱₀ c none) Set.univ (k0_part48 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1191) Q :=
  part48_spec m K c v2 v1191 W Q

theorem part49_spec' (c : Dev nD) (v2 : BitVec 32) (W : Waits sig Unit) (Q : (PUnit) → sProp 𝕄) :
    iprop(recvRes m K rsR c 0 29
      ∗ recvRes m K rsR c 0 30
      ∗ levAts L lv
      ∗ owes (c : Thread nD τ) (owedAfter c 93) W
      ∗ (∀ r, (gotRsR m c 0 29 ∗ closedAt m K c 0 29 rsR ∗ gotRsR m c 0 30 ∗ closedAt m K c 0 30 rsR ∗ owes (c : Thread nD τ) (owedAfter c 93) (insert (SemLoc.dma (semAt (arr rsR) 0 30), ()) (insert (SemLoc.dma (semAt (arr rsR) 0 29), ()) (W)))) -∗ Q r))
      ⊢ wp frame (wpE (defs₀ (F := F)) 𝒱₀ c none) Set.univ (k0_part49 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part49_spec m K c v2 W Q

theorem part51_spec' (c : Dev nD) (v2 : BitVec 32) (O : CellTallies nD τ sig Unit) (W : Waits sig Unit) (Q : (BitVec 32) → sProp 𝕄) :
    iprop(copyRes m K agS agR c 0 1
      ∗ outShareAt m c 0 1
      ∗ peerOutAt c 0 1
      ∗ copyRes m K agS agR c 0 2
      ∗ outShareAt m c 0 2
      ∗ peerOutAt c 0 2
      ∗ copyRes m K agS agR c 0 3
      ∗ outShareAt m c 0 3
      ∗ peerOutAt c 0 3
      ∗ owes (c : Thread nD τ) (O + tallyAt (dmaCell (fwd c 3) agR 0 3) () Nc + tallyAt (dmaCell (fwd c 2) agR 0 2) () Nc + tallyAt (dmaCell (fwd c 1) agR 0 1) () Nc) W
      ∗ (∀ r, (recvRes m K agS c 0 1 ∗ recvRes m K agS c 0 2 ∗ recvRes m K agS c 0 3 ∗ owes (c : Thread nD τ) (O) (W)) -∗ Q r))
      ⊢ wp frame (wpE (defs₀ (F := F)) 𝒱₀ c none) Set.univ (k0_part51 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part51_spec m K c v2 O W Q

theorem part52_spec' (c : Dev nD) (v2 : BitVec 32) (c4_i32_1584 : BitVec 32) (O : CellTallies nD τ sig Unit) (W : Waits sig Unit) (Q : (BitVec 32) → sProp 𝕄) :
    iprop(copyRes m K agS agR c 0 4
      ∗ outShareAt m c 0 4
      ∗ peerOutAt c 0 4
      ∗ copyRes m K agS agR c 0 5
      ∗ outShareAt m c 0 5
      ∗ peerOutAt c 0 5
      ∗ owes (c : Thread nD τ) (O + tallyAt (dmaCell (fwd c 5) agR 0 5) () Nc + tallyAt (dmaCell (fwd c 4) agR 0 4) () Nc) W
      ∗ (∀ r, (recvRes m K agS c 0 4 ∗ recvRes m K agS c 0 5 ∗ owes (c : Thread nD τ) (O) (W)) -∗ Q r))
      ⊢ wp frame (wpE (defs₀ (F := F)) 𝒱₀ c none) Set.univ (k0_part52 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 c4_i32_1584) Q :=
  part52_spec m K c v2 c4_i32_1584 O W Q

theorem part53_spec' (c : Dev nD) (v2 : BitVec 32) (v1327 : BitVec 32) (O : CellTallies nD τ sig Unit) (W : Waits sig Unit) (Q : (PUnit) → sProp 𝕄) :
    iprop(copyRes m K agS agR c 0 6
      ∗ outShareAt m c 0 6
      ∗ peerOutAt c 0 6
      ∗ copyRes m K agS agR c 0 7
      ∗ outShareAt m c 0 7
      ∗ peerOutAt c 0 7
      ∗ owes (c : Thread nD τ) (O + tallyAt (dmaCell (fwd c 7) agR 0 7) () Nc + tallyAt (dmaCell (fwd c 6) agR 0 6) () Nc) W
      ∗ (∀ r, (recvRes m K agS c 0 6 ∗ recvRes m K agS c 0 7 ∗ owes (c : Thread nD τ) (O) (W)) -∗ Q r))
      ⊢ wp frame (wpE (defs₀ (F := F)) 𝒱₀ c none) Set.univ (k0_part53 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1327) Q :=
  part53_spec m K c v2 v1327 O W Q

theorem part54_spec' (c : Dev nD) (v2 : BitVec 32) (O : CellTallies nD τ sig Unit) (W : Waits sig Unit) (Q : (BitVec 32) → sProp 𝕄) :
    iprop(copyRes m K agS agR c 0 8
      ∗ outShareAt m c 0 8
      ∗ peerOutAt c 0 8
      ∗ copyRes m K agS agR c 0 9
      ∗ outShareAt m c 0 9
      ∗ peerOutAt c 0 9
      ∗ copyRes m K agS agR c 0 10
      ∗ outShareAt m c 0 10
      ∗ peerOutAt c 0 10
      ∗ owes (c : Thread nD τ) (O + tallyAt (dmaCell (fwd c 10) agR 0 10) () Nc + tallyAt (dmaCell (fwd c 9) agR 0 9) () Nc + tallyAt (dmaCell (fwd c 8) agR 0 8) () Nc) W
      ∗ (∀ r, (recvRes m K agS c 0 8 ∗ recvRes m K agS c 0 9 ∗ recvRes m K agS c 0 10 ∗ owes (c : Thread nD τ) (O) (W)) -∗ Q r))
      ⊢ wp frame (wpE (defs₀ (F := F)) 𝒱₀ c none) Set.univ (k0_part54 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part54_spec m K c v2 O W Q

theorem part55_spec' (c : Dev nD) (v2 : BitVec 32) (v1387 : BitVec 32) (O : CellTallies nD τ sig Unit) (W : Waits sig Unit) (Q : (PUnit) → sProp 𝕄) :
    iprop(copyRes m K agS agR c 0 11
      ∗ outShareAt m c 0 11
      ∗ peerOutAt c 0 11
      ∗ copyRes m K agS agR c 0 12
      ∗ outShareAt m c 0 12
      ∗ peerOutAt c 0 12
      ∗ owes (c : Thread nD τ) (O + tallyAt (dmaCell (fwd c 12) agR 0 12) () Nc + tallyAt (dmaCell (fwd c 11) agR 0 11) () Nc) W
      ∗ (∀ r, (recvRes m K agS c 0 11 ∗ recvRes m K agS c 0 12 ∗ owes (c : Thread nD τ) (O) (W)) -∗ Q r))
      ⊢ wp frame (wpE (defs₀ (F := F)) 𝒱₀ c none) Set.univ (k0_part55 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1387) Q :=
  part55_spec m K c v2 v1387 O W Q

theorem part56_spec' (c : Dev nD) (v2 : BitVec 32) (O : CellTallies nD τ sig Unit) (W : Waits sig Unit) (Q : (BitVec 32) → sProp 𝕄) :
    iprop(copyRes m K agS agR c 0 13
      ∗ outShareAt m c 0 13
      ∗ peerOutAt c 0 13
      ∗ copyRes m K agS agR c 0 14
      ∗ outShareAt m c 0 14
      ∗ peerOutAt c 0 14
      ∗ copyRes m K agS agR c 0 15
      ∗ outShareAt m c 0 15
      ∗ peerOutAt c 0 15
      ∗ owes (c : Thread nD τ) (O + tallyAt (dmaCell (fwd c 15) agR 0 15) () Nc + tallyAt (dmaCell (fwd c 14) agR 0 14) () Nc + tallyAt (dmaCell (fwd c 13) agR 0 13) () Nc) W
      ∗ (∀ r, (recvRes m K agS c 0 13 ∗ recvRes m K agS c 0 14 ∗ recvRes m K agS c 0 15 ∗ owes (c : Thread nD τ) (O) (W)) -∗ Q r))
      ⊢ wp frame (wpE (defs₀ (F := F)) 𝒱₀ c none) Set.univ (k0_part56 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part56_spec m K c v2 O W Q

theorem part57_spec' (c : Dev nD) (v2 : BitVec 32) (c16_i32_1728 : BitVec 32) (O : CellTallies nD τ sig Unit) (W : Waits sig Unit) (Q : (BitVec 32) → sProp 𝕄) :
    iprop(copyRes m K agS agR c 0 16
      ∗ outShareAt m c 0 16
      ∗ peerOutAt c 0 16
      ∗ copyRes m K agS agR c 0 17
      ∗ outShareAt m c 0 17
      ∗ peerOutAt c 0 17
      ∗ owes (c : Thread nD τ) (O + tallyAt (dmaCell (fwd c 17) agR 0 17) () Nc + tallyAt (dmaCell (fwd c 16) agR 0 16) () Nc) W
      ∗ (∀ r, (recvRes m K agS c 0 16 ∗ recvRes m K agS c 0 17 ∗ owes (c : Thread nD τ) (O) (W)) -∗ Q r))
      ⊢ wp frame (wpE (defs₀ (F := F)) 𝒱₀ c none) Set.univ (k0_part57 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 c16_i32_1728) Q :=
  part57_spec m K c v2 c16_i32_1728 O W Q

theorem part58_spec' (c : Dev nD) (v2 : BitVec 32) (v1471 : BitVec 32) (O : CellTallies nD τ sig Unit) (W : Waits sig Unit) (Q : (PUnit) → sProp 𝕄) :
    iprop(copyRes m K agS agR c 0 18
      ∗ outShareAt m c 0 18
      ∗ peerOutAt c 0 18
      ∗ copyRes m K agS agR c 0 19
      ∗ outShareAt m c 0 19
      ∗ peerOutAt c 0 19
      ∗ owes (c : Thread nD τ) (O + tallyAt (dmaCell (fwd c 19) agR 0 19) () Nc + tallyAt (dmaCell (fwd c 18) agR 0 18) () Nc) W
      ∗ (∀ r, (recvRes m K agS c 0 18 ∗ recvRes m K agS c 0 19 ∗ owes (c : Thread nD τ) (O) (W)) -∗ Q r))
      ⊢ wp frame (wpE (defs₀ (F := F)) 𝒱₀ c none) Set.univ (k0_part58 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1471) Q :=
  part58_spec m K c v2 v1471 O W Q

theorem part59_spec' (c : Dev nD) (v2 : BitVec 32) (O : CellTallies nD τ sig Unit) (W : Waits sig Unit) (Q : (BitVec 32) → sProp 𝕄) :
    iprop(copyRes m K agS agR c 0 20
      ∗ outShareAt m c 0 20
      ∗ peerOutAt c 0 20
      ∗ copyRes m K agS agR c 0 21
      ∗ outShareAt m c 0 21
      ∗ peerOutAt c 0 21
      ∗ copyRes m K agS agR c 0 22
      ∗ outShareAt m c 0 22
      ∗ peerOutAt c 0 22
      ∗ owes (c : Thread nD τ) (O + tallyAt (dmaCell (fwd c 22) agR 0 22) () Nc + tallyAt (dmaCell (fwd c 21) agR 0 21) () Nc + tallyAt (dmaCell (fwd c 20) agR 0 20) () Nc) W
      ∗ (∀ r, (recvRes m K agS c 0 20 ∗ recvRes m K agS c 0 21 ∗ recvRes m K agS c 0 22 ∗ owes (c : Thread nD τ) (O) (W)) -∗ Q r))
      ⊢ wp frame (wpE (defs₀ (F := F)) 𝒱₀ c none) Set.univ (k0_part59 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part59_spec m K c v2 O W Q

theorem part60_spec' (c : Dev nD) (v2 : BitVec 32) (v1531 : BitVec 32) (O : CellTallies nD τ sig Unit) (W : Waits sig Unit) (Q : (PUnit) → sProp 𝕄) :
    iprop(copyRes m K agS agR c 0 23
      ∗ outShareAt m c 0 23
      ∗ peerOutAt c 0 23
      ∗ copyRes m K agS agR c 0 24
      ∗ outShareAt m c 0 24
      ∗ peerOutAt c 0 24
      ∗ owes (c : Thread nD τ) (O + tallyAt (dmaCell (fwd c 24) agR 0 24) () Nc + tallyAt (dmaCell (fwd c 23) agR 0 23) () Nc) W
      ∗ (∀ r, (recvRes m K agS c 0 23 ∗ recvRes m K agS c 0 24 ∗ owes (c : Thread nD τ) (O) (W)) -∗ Q r))
      ⊢ wp frame (wpE (defs₀ (F := F)) 𝒱₀ c none) Set.univ (k0_part60 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1531) Q :=
  part60_spec m K c v2 v1531 O W Q

theorem part61_spec' (c : Dev nD) (v2 : BitVec 32) (O : CellTallies nD τ sig Unit) (W : Waits sig Unit) (Q : (BitVec 32) → sProp 𝕄) :
    iprop(copyRes m K agS agR c 0 25
      ∗ outShareAt m c 0 25
      ∗ peerOutAt c 0 25
      ∗ copyRes m K agS agR c 0 26
      ∗ outShareAt m c 0 26
      ∗ peerOutAt c 0 26
      ∗ copyRes m K agS agR c 0 27
      ∗ outShareAt m c 0 27
      ∗ peerOutAt c 0 27
      ∗ owes (c : Thread nD τ) (O + tallyAt (dmaCell (fwd c 27) agR 0 27) () Nc + tallyAt (dmaCell (fwd c 26) agR 0 26) () Nc + tallyAt (dmaCell (fwd c 25) agR 0 25) () Nc) W
      ∗ (∀ r, (recvRes m K agS c 0 25 ∗ recvRes m K agS c 0 26 ∗ recvRes m K agS c 0 27 ∗ owes (c : Thread nD τ) (O) (W)) -∗ Q r))
      ⊢ wp frame (wpE (defs₀ (F := F)) 𝒱₀ c none) Set.univ (k0_part61 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part61_spec m K c v2 O W Q

theorem part62_spec' (c : Dev nD) (v2 : BitVec 32) (c28_i32_1872 : BitVec 32) (O : CellTallies nD τ sig Unit) (W : Waits sig Unit) (Q : (BitVec 32) → sProp 𝕄) :
    iprop(copyRes m K agS agR c 0 28
      ∗ outShareAt m c 0 28
      ∗ peerOutAt c 0 28
      ∗ copyRes m K agS agR c 0 29
      ∗ outShareAt m c 0 29
      ∗ peerOutAt c 0 29
      ∗ owes (c : Thread nD τ) (O + tallyAt (dmaCell (fwd c 29) agR 0 29) () Nc + tallyAt (dmaCell (fwd c 28) agR 0 28) () Nc) W
      ∗ (∀ r, (recvRes m K agS c 0 28 ∗ recvRes m K agS c 0 29 ∗ owes (c : Thread nD τ) (O) (W)) -∗ Q r))
      ⊢ wp frame (wpE (defs₀ (F := F)) 𝒱₀ c none) Set.univ (k0_part62 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 c28_i32_1872) Q :=
  part62_spec m K c v2 c28_i32_1872 O W Q

theorem part63_spec' (c : Dev nD) (v2 : BitVec 32) (v1615 : BitVec 32) (O : CellTallies nD τ sig Unit) (W : Waits sig Unit) (Q : (PUnit) → sProp 𝕄) :
    iprop(copyRes m K agS agR c 0 30
      ∗ outShareAt m c 0 30
      ∗ peerOutAt c 0 30
      ∗ copyRes m K agS agR c 0 31
      ∗ outShareAt m c 0 31
      ∗ peerOutAt c 0 31
      ∗ owes (c : Thread nD τ) (O + tallyAt (dmaCell (fwd c 31) agR 0 31) () Nc + tallyAt (dmaCell (fwd c 30) agR 0 30) () Nc) W
      ∗ (∀ r, (recvRes m K agS c 0 30 ∗ recvRes m K agS c 0 31 ∗ owes (c : Thread nD τ) (O) (W)) -∗ Q r))
      ⊢ wp frame (wpE (defs₀ (F := F)) 𝒱₀ c none) Set.univ (k0_part63 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1615) Q :=
  part63_spec m K c v2 v1615 O W Q

theorem part64_spec' (c : Dev nD) (v2 : BitVec 32) (W : Waits sig Unit) (Q : (PUnit) → sProp 𝕄) :
    iprop(recvRes m K rsR c 1 1
      ∗ recvRes m K rsR c 1 2
      ∗ levAts L lv
      ∗ owes (c : Thread nD τ) (owedAfter c 124) W
      ∗ (∀ r, (gotRsR m c 1 1 ∗ closedAt m K c 1 1 rsR ∗ gotRsR m c 1 2 ∗ closedAt m K c 1 2 rsR ∗ owes (c : Thread nD τ) (owedAfter c 124) (insert (SemLoc.dma (semAt (arr rsR) 1 2), ()) (insert (SemLoc.dma (semAt (arr rsR) 1 1), ()) (W)))) -∗ Q r))
      ⊢ wp frame (wpE (defs₀ (F := F)) 𝒱₀ c none) Set.univ (k0_part64 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part64_spec m K c v2 W Q

theorem part65_spec' (c : Dev nD) (v2 : BitVec 32) (W : Waits sig Unit) (Q : (PUnit) → sProp 𝕄) :
    iprop(recvRes m K rsR c 1 3
      ∗ recvRes m K rsR c 1 4
      ∗ levAts L lv
      ∗ owes (c : Thread nD τ) (owedAfter c 124) W
      ∗ (∀ r, (gotRsR m c 1 3 ∗ closedAt m K c 1 3 rsR ∗ gotRsR m c 1 4 ∗ closedAt m K c 1 4 rsR ∗ owes (c : Thread nD τ) (owedAfter c 124) (insert (SemLoc.dma (semAt (arr rsR) 1 4), ()) (insert (SemLoc.dma (semAt (arr rsR) 1 3), ()) (W)))) -∗ Q r))
      ⊢ wp frame (wpE (defs₀ (F := F)) 𝒱₀ c none) Set.univ (k0_part65 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part65_spec m K c v2 W Q

theorem part66_spec' (c : Dev nD) (v2 : BitVec 32) (W : Waits sig Unit) (Q : (PUnit) → sProp 𝕄) :
    iprop(recvRes m K rsR c 1 5
      ∗ recvRes m K rsR c 1 6
      ∗ levAts L lv
      ∗ owes (c : Thread nD τ) (owedAfter c 124) W
      ∗ (∀ r, (gotRsR m c 1 5 ∗ closedAt m K c 1 5 rsR ∗ gotRsR m c 1 6 ∗ closedAt m K c 1 6 rsR ∗ owes (c : Thread nD τ) (owedAfter c 124) (insert (SemLoc.dma (semAt (arr rsR) 1 6), ()) (insert (SemLoc.dma (semAt (arr rsR) 1 5), ()) (W)))) -∗ Q r))
      ⊢ wp frame (wpE (defs₀ (F := F)) 𝒱₀ c none) Set.univ (k0_part66 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part66_spec m K c v2 W Q

theorem part67_spec' (c : Dev nD) (v2 : BitVec 32) (W : Waits sig Unit) (Q : (PUnit) → sProp 𝕄) :
    iprop(recvRes m K rsR c 1 7
      ∗ recvRes m K rsR c 1 8
      ∗ recvRes m K rsR c 1 9
      ∗ levAts L lv
      ∗ owes (c : Thread nD τ) (owedAfter c 124) W
      ∗ (∀ r, (gotRsR m c 1 7 ∗ closedAt m K c 1 7 rsR ∗ gotRsR m c 1 8 ∗ closedAt m K c 1 8 rsR ∗ gotRsR m c 1 9 ∗ closedAt m K c 1 9 rsR ∗ owes (c : Thread nD τ) (owedAfter c 124) (insert (SemLoc.dma (semAt (arr rsR) 1 9), ()) (insert (SemLoc.dma (semAt (arr rsR) 1 8), ()) (insert (SemLoc.dma (semAt (arr rsR) 1 7), ()) (W))))) -∗ Q r))
      ⊢ wp frame (wpE (defs₀ (F := F)) 𝒱₀ c none) Set.univ (k0_part67 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part67_spec m K c v2 W Q

theorem part68_spec' (c : Dev nD) (v2 : BitVec 32) (W : Waits sig Unit) (Q : (BitVec 32) → sProp 𝕄) :
    iprop(recvRes m K rsR c 1 10
      ∗ recvRes m K rsR c 1 11
      ∗ levAts L lv
      ∗ owes (c : Thread nD τ) (owedAfter c 124) W
      ∗ (∀ r, (gotRsR m c 1 10 ∗ closedAt m K c 1 10 rsR ∗ gotRsR m c 1 11 ∗ closedAt m K c 1 11 rsR ∗ owes (c : Thread nD τ) (owedAfter c 124) (insert (SemLoc.dma (semAt (arr rsR) 1 11), ()) (insert (SemLoc.dma (semAt (arr rsR) 1 10), ()) (W)))) -∗ Q r))
      ⊢ wp frame (wpE (defs₀ (F := F)) 𝒱₀ c none) Set.univ (k0_part68 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part68_spec m K c v2 W Q

theorem part69_spec' (c : Dev nD) (v2 : BitVec 32) (v1759 : BitVec 32) (W : Waits sig Unit) (Q : (BitVec 32) → sProp 𝕄) :
    iprop(recvRes m K rsR c 1 12
      ∗ recvRes m K rsR c 1 13
      ∗ levAts L lv
      ∗ owes (c : Thread nD τ) (owedAfter c 124) W
      ∗ (∀ r, (gotRsR m c 1 12 ∗ closedAt m K c 1 12 rsR ∗ gotRsR m c 1 13 ∗ closedAt m K c 1 13 rsR ∗ owes (c : Thread nD τ) (owedAfter c 124) (insert (SemLoc.dma (semAt (arr rsR) 1 13), ()) (insert (SemLoc.dma (semAt (arr rsR) 1 12), ()) (W)))) -∗ Q r))
      ⊢ wp frame (wpE (defs₀ (F := F)) 𝒱₀ c none) Set.univ (k0_part69 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1759) Q :=
  part69_spec m K c v2 v1759 W Q

theorem part70_spec' (c : Dev nD) (v2 : BitVec 32) (v1782 : BitVec 32) (W : Waits sig Unit) (Q : (BitVec 32) → sProp 𝕄) :
    iprop(recvRes m K rsR c 1 14
      ∗ recvRes m K rsR c 1 15
      ∗ levAts L lv
      ∗ owes (c : Thread nD τ) (owedAfter c 124) W
      ∗ (∀ r, (gotRsR m c 1 14 ∗ closedAt m K c 1 14 rsR ∗ gotRsR m c 1 15 ∗ closedAt m K c 1 15 rsR ∗ owes (c : Thread nD τ) (owedAfter c 124) (insert (SemLoc.dma (semAt (arr rsR) 1 15), ()) (insert (SemLoc.dma (semAt (arr rsR) 1 14), ()) (W)))) -∗ Q r))
      ⊢ wp frame (wpE (defs₀ (F := F)) 𝒱₀ c none) Set.univ (k0_part70 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1782) Q :=
  part70_spec m K c v2 v1782 W Q

theorem part71_spec' (c : Dev nD) (v2 : BitVec 32) (v1805 : BitVec 32) (W : Waits sig Unit) (Q : (BitVec 32) → sProp 𝕄) :
    iprop(recvRes m K rsR c 1 16
      ∗ recvRes m K rsR c 1 17
      ∗ levAts L lv
      ∗ owes (c : Thread nD τ) (owedAfter c 124) W
      ∗ (∀ r, (gotRsR m c 1 16 ∗ closedAt m K c 1 16 rsR ∗ gotRsR m c 1 17 ∗ closedAt m K c 1 17 rsR ∗ owes (c : Thread nD τ) (owedAfter c 124) (insert (SemLoc.dma (semAt (arr rsR) 1 17), ()) (insert (SemLoc.dma (semAt (arr rsR) 1 16), ()) (W)))) -∗ Q r))
      ⊢ wp frame (wpE (defs₀ (F := F)) 𝒱₀ c none) Set.univ (k0_part71 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1805) Q :=
  part71_spec m K c v2 v1805 W Q

theorem part72_spec' (c : Dev nD) (v2 : BitVec 32) (v1827 : BitVec 32) (W : Waits sig Unit) (Q : (BitVec 32) → sProp 𝕄) :
    iprop(recvRes m K rsR c 1 18
      ∗ recvRes m K rsR c 1 19
      ∗ levAts L lv
      ∗ owes (c : Thread nD τ) (owedAfter c 124) W
      ∗ (∀ r, (gotRsR m c 1 18 ∗ closedAt m K c 1 18 rsR ∗ gotRsR m c 1 19 ∗ closedAt m K c 1 19 rsR ∗ owes (c : Thread nD τ) (owedAfter c 124) (insert (SemLoc.dma (semAt (arr rsR) 1 19), ()) (insert (SemLoc.dma (semAt (arr rsR) 1 18), ()) (W)))) -∗ Q r))
      ⊢ wp frame (wpE (defs₀ (F := F)) 𝒱₀ c none) Set.univ (k0_part72 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1827) Q :=
  part72_spec m K c v2 v1827 W Q

theorem part73_spec' (c : Dev nD) (v2 : BitVec 32) (v1849 : BitVec 32) (W : Waits sig Unit) (Q : (BitVec 32) → sProp 𝕄) :
    iprop(recvRes m K rsR c 1 20
      ∗ recvRes m K rsR c 1 21
      ∗ levAts L lv
      ∗ owes (c : Thread nD τ) (owedAfter c 124) W
      ∗ (∀ r, (gotRsR m c 1 20 ∗ closedAt m K c 1 20 rsR ∗ gotRsR m c 1 21 ∗ closedAt m K c 1 21 rsR ∗ owes (c : Thread nD τ) (owedAfter c 124) (insert (SemLoc.dma (semAt (arr rsR) 1 21), ()) (insert (SemLoc.dma (semAt (arr rsR) 1 20), ()) (W)))) -∗ Q r))
      ⊢ wp frame (wpE (defs₀ (F := F)) 𝒱₀ c none) Set.univ (k0_part73 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1849) Q :=
  part73_spec m K c v2 v1849 W Q

theorem part74_spec' (c : Dev nD) (v2 : BitVec 32) (v1871 : BitVec 32) (W : Waits sig Unit) (Q : (BitVec 32) → sProp 𝕄) :
    iprop(recvRes m K rsR c 1 22
      ∗ recvRes m K rsR c 1 23
      ∗ levAts L lv
      ∗ owes (c : Thread nD τ) (owedAfter c 124) W
      ∗ (∀ r, (gotRsR m c 1 22 ∗ closedAt m K c 1 22 rsR ∗ gotRsR m c 1 23 ∗ closedAt m K c 1 23 rsR ∗ owes (c : Thread nD τ) (owedAfter c 124) (insert (SemLoc.dma (semAt (arr rsR) 1 23), ()) (insert (SemLoc.dma (semAt (arr rsR) 1 22), ()) (W)))) -∗ Q r))
      ⊢ wp frame (wpE (defs₀ (F := F)) 𝒱₀ c none) Set.univ (k0_part74 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1871) Q :=
  part74_spec m K c v2 v1871 W Q

theorem part75_spec' (c : Dev nD) (v2 : BitVec 32) (v1893 : BitVec 32) (W : Waits sig Unit) (Q : (BitVec 32) → sProp 𝕄) :
    iprop(recvRes m K rsR c 1 24
      ∗ recvRes m K rsR c 1 25
      ∗ levAts L lv
      ∗ owes (c : Thread nD τ) (owedAfter c 124) W
      ∗ (∀ r, (gotRsR m c 1 24 ∗ closedAt m K c 1 24 rsR ∗ gotRsR m c 1 25 ∗ closedAt m K c 1 25 rsR ∗ owes (c : Thread nD τ) (owedAfter c 124) (insert (SemLoc.dma (semAt (arr rsR) 1 25), ()) (insert (SemLoc.dma (semAt (arr rsR) 1 24), ()) (W)))) -∗ Q r))
      ⊢ wp frame (wpE (defs₀ (F := F)) 𝒱₀ c none) Set.univ (k0_part75 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1893) Q :=
  part75_spec m K c v2 v1893 W Q

theorem part76_spec' (c : Dev nD) (v2 : BitVec 32) (v1916 : BitVec 32) (W : Waits sig Unit) (Q : (PUnit) → sProp 𝕄) :
    iprop(recvRes m K rsR c 1 26
      ∗ recvRes m K rsR c 1 27
      ∗ levAts L lv
      ∗ owes (c : Thread nD τ) (owedAfter c 124) W
      ∗ (∀ r, (gotRsR m c 1 26 ∗ closedAt m K c 1 26 rsR ∗ gotRsR m c 1 27 ∗ closedAt m K c 1 27 rsR ∗ owes (c : Thread nD τ) (owedAfter c 124) (insert (SemLoc.dma (semAt (arr rsR) 1 27), ()) (insert (SemLoc.dma (semAt (arr rsR) 1 26), ()) (W)))) -∗ Q r))
      ⊢ wp frame (wpE (defs₀ (F := F)) 𝒱₀ c none) Set.univ (k0_part76 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1916) Q :=
  part76_spec m K c v2 v1916 W Q

theorem part77_spec' (c : Dev nD) (v2 : BitVec 32) (W : Waits sig Unit) (Q : (PUnit) → sProp 𝕄) :
    iprop(recvRes m K rsR c 1 28
      ∗ recvRes m K rsR c 1 29
      ∗ levAts L lv
      ∗ owes (c : Thread nD τ) (owedAfter c 124) W
      ∗ (∀ r, (gotRsR m c 1 28 ∗ closedAt m K c 1 28 rsR ∗ gotRsR m c 1 29 ∗ closedAt m K c 1 29 rsR ∗ owes (c : Thread nD τ) (owedAfter c 124) (insert (SemLoc.dma (semAt (arr rsR) 1 29), ()) (insert (SemLoc.dma (semAt (arr rsR) 1 28), ()) (W)))) -∗ Q r))
      ⊢ wp frame (wpE (defs₀ (F := F)) 𝒱₀ c none) Set.univ (k0_part77 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part77_spec m K c v2 W Q

theorem part80_spec' (c : Dev nD) (v2 : BitVec 32) (O : CellTallies nD τ sig Unit) (W : Waits sig Unit) (Q : (Σ' (v2051 : BitVec 32), BitVec 32) → sProp 𝕄) :
    iprop(copyRes m K agS agR c 1 2
      ∗ outShareAt m c 1 2
      ∗ peerOutAt c 1 2
      ∗ copyRes m K agS agR c 1 3
      ∗ outShareAt m c 1 3
      ∗ peerOutAt c 1 3
      ∗ copyRes m K agS agR c 1 4
      ∗ outShareAt m c 1 4
      ∗ peerOutAt c 1 4
      ∗ owes (c : Thread nD τ) (O + tallyAt (dmaCell (fwd c 4) agR 1 4) () Nc + tallyAt (dmaCell (fwd c 3) agR 1 3) () Nc + tallyAt (dmaCell (fwd c 2) agR 1 2) () Nc) W
      ∗ (∀ r, (recvRes m K agS c 1 2 ∗ recvRes m K agS c 1 3 ∗ recvRes m K agS c 1 4 ∗ owes (c : Thread nD τ) (O) (W)) -∗ Q r))
      ⊢ wp frame (wpE (defs₀ (F := F)) 𝒱₀ c none) Set.univ (k0_part80 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part80_spec m K c v2 O W Q

theorem part81_spec' (c : Dev nD) (v2 : BitVec 32) (v2051 : BitVec 32) (c32_i32_2509 : BitVec 32) (O : CellTallies nD τ sig Unit) (W : Waits sig Unit) (Q : (PUnit) → sProp 𝕄) :
    iprop(copyRes m K agS agR c 1 5
      ∗ outShareAt m c 1 5
      ∗ peerOutAt c 1 5
      ∗ copyRes m K agS agR c 1 6
      ∗ outShareAt m c 1 6
      ∗ peerOutAt c 1 6
      ∗ owes (c : Thread nD τ) (O + tallyAt (dmaCell (fwd c 6) agR 1 6) () Nc + tallyAt (dmaCell (fwd c 5) agR 1 5) () Nc) W
      ∗ (∀ r, (recvRes m K agS c 1 5 ∗ recvRes m K agS c 1 6 ∗ owes (c : Thread nD τ) (O) (W)) -∗ Q r))
      ⊢ wp frame (wpE (defs₀ (F := F)) 𝒱₀ c none) Set.univ (k0_part81 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2051 c32_i32_2509) Q :=
  part81_spec m K c v2 v2051 c32_i32_2509 O W Q

theorem part82_spec' (c : Dev nD) (v2 : BitVec 32) (O : CellTallies nD τ sig Unit) (W : Waits sig Unit) (Q : (BitVec 32) → sProp 𝕄) :
    iprop(copyRes m K agS agR c 1 7
      ∗ outShareAt m c 1 7
      ∗ peerOutAt c 1 7
      ∗ copyRes m K agS agR c 1 8
      ∗ outShareAt m c 1 8
      ∗ peerOutAt c 1 8
      ∗ copyRes m K agS agR c 1 9
      ∗ outShareAt m c 1 9
      ∗ peerOutAt c 1 9
      ∗ owes (c : Thread nD τ) (O + tallyAt (dmaCell (fwd c 9) agR 1 9) () Nc + tallyAt (dmaCell (fwd c 8) agR 1 8) () Nc + tallyAt (dmaCell (fwd c 7) agR 1 7) () Nc) W
      ∗ (∀ r, (recvRes m K agS c 1 7 ∗ recvRes m K agS c 1 8 ∗ recvRes m K agS c 1 9 ∗ owes (c : Thread nD τ) (O) (W)) -∗ Q r))
      ⊢ wp frame (wpE (defs₀ (F := F)) 𝒱₀ c none) Set.univ (k0_part82 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part82_spec m K c v2 O W Q

theorem part83_spec' (c : Dev nD) (v2 : BitVec 32) (v2110 : BitVec 32) (O : CellTallies nD τ sig Unit) (W : Waits sig Unit) (Q : (BitVec 32) → sProp 𝕄) :
    iprop(copyRes m K agS agR c 1 10
      ∗ outShareAt m c 1 10
      ∗ peerOutAt c 1 10
      ∗ copyRes m K agS agR c 1 11
      ∗ outShareAt m c 1 11
      ∗ peerOutAt c 1 11
      ∗ owes (c : Thread nD τ) (O + tallyAt (dmaCell (fwd c 11) agR 1 11) () Nc + tallyAt (dmaCell (fwd c 10) agR 1 10) () Nc) W
      ∗ (∀ r, (recvRes m K agS c 1 10 ∗ recvRes m K agS c 1 11 ∗ owes (c : Thread nD τ) (O) (W)) -∗ Q r))
      ⊢ wp frame (wpE (defs₀ (F := F)) 𝒱₀ c none) Set.univ (k0_part83 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2110) Q :=
  part83_spec m K c v2 v2110 O W Q

theorem part84_spec' (c : Dev nD) (v2 : BitVec 32) (v2135 : BitVec 32) (O : CellTallies nD τ sig Unit) (W : Waits sig Unit) (Q : (PUnit) → sProp 𝕄) :
    iprop(copyRes m K agS agR c 1 12
      ∗ outShareAt m c 1 12
      ∗ peerOutAt c 1 12
      ∗ copyRes m K agS agR c 1 13
      ∗ outShareAt m c 1 13
      ∗ peerOutAt c 1 13
      ∗ owes (c : Thread nD τ) (O + tallyAt (dmaCell (fwd c 13) agR 1 13) () Nc + tallyAt (dmaCell (fwd c 12) agR 1 12) () Nc) W
      ∗ (∀ r, (recvRes m K agS c 1 12 ∗ recvRes m K agS c 1 13 ∗ owes (c : Thread nD τ) (O) (W)) -∗ Q r))
      ⊢ wp frame (wpE (defs₀ (F := F)) 𝒱₀ c none) Set.univ (k0_part84 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2135) Q :=
  part84_spec m K c v2 v2135 O W Q

theorem part85_spec' (c : Dev nD) (v2 : BitVec 32) (O : CellTallies nD τ sig Unit) (W : Waits sig Unit) (Q : (Σ' (v2195 : BitVec 32), BitVec 32) → sProp 𝕄) :
    iprop(copyRes m K agS agR c 1 14
      ∗ outShareAt m c 1 14
      ∗ peerOutAt c 1 14
      ∗ copyRes m K agS agR c 1 15
      ∗ outShareAt m c 1 15
      ∗ peerOutAt c 1 15
      ∗ copyRes m K agS agR c 1 16
      ∗ outShareAt m c 1 16
      ∗ peerOutAt c 1 16
      ∗ owes (c : Thread nD τ) (O + tallyAt (dmaCell (fwd c 16) agR 1 16) () Nc + tallyAt (dmaCell (fwd c 15) agR 1 15) () Nc + tallyAt (dmaCell (fwd c 14) agR 1 14) () Nc) W
      ∗ (∀ r, (recvRes m K agS c 1 14 ∗ recvRes m K agS c 1 15 ∗ recvRes m K agS c 1 16 ∗ owes (c : Thread nD τ) (O) (W)) -∗ Q r))
      ⊢ wp frame (wpE (defs₀ (F := F)) 𝒱₀ c none) Set.univ (k0_part85 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part85_spec m K c v2 O W Q

theorem part86_spec' (c : Dev nD) (v2 : BitVec 32) (v2195 : BitVec 32) (c32_i32_2653 : BitVec 32) (O : CellTallies nD τ sig Unit) (W : Waits sig Unit) (Q : (PUnit) → sProp 𝕄) :
    iprop(copyRes m K agS agR c 1 17
      ∗ outShareAt m c 1 17
      ∗ peerOutAt c 1 17
      ∗ copyRes m K agS agR c 1 18
      ∗ outShareAt m c 1 18
      ∗ peerOutAt c 1 18
      ∗ owes (c : Thread nD τ) (O + tallyAt (dmaCell (fwd c 18) agR 1 18) () Nc + tallyAt (dmaCell (fwd c 17) agR 1 17) () Nc) W
      ∗ (∀ r, (recvRes m K agS c 1 17 ∗ recvRes m K agS c 1 18 ∗ owes (c : Thread nD τ) (O) (W)) -∗ Q r))
      ⊢ wp frame (wpE (defs₀ (F := F)) 𝒱₀ c none) Set.univ (k0_part86 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2195 c32_i32_2653) Q :=
  part86_spec m K c v2 v2195 c32_i32_2653 O W Q

theorem part87_spec' (c : Dev nD) (v2 : BitVec 32) (O : CellTallies nD τ sig Unit) (W : Waits sig Unit) (Q : (BitVec 32) → sProp 𝕄) :
    iprop(copyRes m K agS agR c 1 19
      ∗ outShareAt m c 1 19
      ∗ peerOutAt c 1 19
      ∗ copyRes m K agS agR c 1 20
      ∗ outShareAt m c 1 20
      ∗ peerOutAt c 1 20
      ∗ copyRes m K agS agR c 1 21
      ∗ outShareAt m c 1 21
      ∗ peerOutAt c 1 21
      ∗ owes (c : Thread nD τ) (O + tallyAt (dmaCell (fwd c 21) agR 1 21) () Nc + tallyAt (dmaCell (fwd c 20) agR 1 20) () Nc + tallyAt (dmaCell (fwd c 19) agR 1 19) () Nc) W
      ∗ (∀ r, (recvRes m K agS c 1 19 ∗ recvRes m K agS c 1 20 ∗ recvRes m K agS c 1 21 ∗ owes (c : Thread nD τ) (O) (W)) -∗ Q r))
      ⊢ wp frame (wpE (defs₀ (F := F)) 𝒱₀ c none) Set.univ (k0_part87 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part87_spec m K c v2 O W Q

theorem part88_spec' (c : Dev nD) (v2 : BitVec 32) (v2254 : BitVec 32) (O : CellTallies nD τ sig Unit) (W : Waits sig Unit) (Q : (BitVec 32) → sProp 𝕄) :
    iprop(copyRes m K agS agR c 1 22
      ∗ outShareAt m c 1 22
      ∗ peerOutAt c 1 22
      ∗ copyRes m K agS agR c 1 23
      ∗ outShareAt m c 1 23
      ∗ peerOutAt c 1 23
      ∗ owes (c : Thread nD τ) (O + tallyAt (dmaCell (fwd c 23) agR 1 23) () Nc + tallyAt (dmaCell (fwd c 22) agR 1 22) () Nc) W
      ∗ (∀ r, (recvRes m K agS c 1 22 ∗ recvRes m K agS c 1 23 ∗ owes (c : Thread nD τ) (O) (W)) -∗ Q r))
      ⊢ wp frame (wpE (defs₀ (F := F)) 𝒱₀ c none) Set.univ (k0_part88 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2254) Q :=
  part88_spec m K c v2 v2254 O W Q

theorem part89_spec' (c : Dev nD) (v2 : BitVec 32) (v2279 : BitVec 32) (O : CellTallies nD τ sig Unit) (W : Waits sig Unit) (Q : (PUnit) → sProp 𝕄) :
    iprop(copyRes m K agS agR c 1 24
      ∗ outShareAt m c 1 24
      ∗ peerOutAt c 1 24
      ∗ copyRes m K agS agR c 1 25
      ∗ outShareAt m c 1 25
      ∗ peerOutAt c 1 25
      ∗ owes (c : Thread nD τ) (O + tallyAt (dmaCell (fwd c 25) agR 1 25) () Nc + tallyAt (dmaCell (fwd c 24) agR 1 24) () Nc) W
      ∗ (∀ r, (recvRes m K agS c 1 24 ∗ recvRes m K agS c 1 25 ∗ owes (c : Thread nD τ) (O) (W)) -∗ Q r))
      ⊢ wp frame (wpE (defs₀ (F := F)) 𝒱₀ c none) Set.univ (k0_part89 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2279) Q :=
  part89_spec m K c v2 v2279 O W Q

theorem part90_spec' (c : Dev nD) (v2 : BitVec 32) (O : CellTallies nD τ sig Unit) (W : Waits sig Unit) (Q : (Σ' (v2339 : BitVec 32), BitVec 32) → sProp 𝕄) :
    iprop(copyRes m K agS agR c 1 26
      ∗ outShareAt m c 1 26
      ∗ peerOutAt c 1 26
      ∗ copyRes m K agS agR c 1 27
      ∗ outShareAt m c 1 27
      ∗ peerOutAt c 1 27
      ∗ copyRes m K agS agR c 1 28
      ∗ outShareAt m c 1 28
      ∗ peerOutAt c 1 28
      ∗ owes (c : Thread nD τ) (O + tallyAt (dmaCell (fwd c 28) agR 1 28) () Nc + tallyAt (dmaCell (fwd c 27) agR 1 27) () Nc + tallyAt (dmaCell (fwd c 26) agR 1 26) () Nc) W
      ∗ (∀ r, (recvRes m K agS c 1 26 ∗ recvRes m K agS c 1 27 ∗ recvRes m K agS c 1 28 ∗ owes (c : Thread nD τ) (O) (W)) -∗ Q r))
      ⊢ wp frame (wpE (defs₀ (F := F)) 𝒱₀ c none) Set.univ (k0_part90 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part90_spec m K c v2 O W Q

theorem part91_spec' (c : Dev nD) (v2 : BitVec 32) (v2339 : BitVec 32) (c32_i32_2797 : BitVec 32) (O : CellTallies nD τ sig Unit) (W : Waits sig Unit) (Q : (PUnit) → sProp 𝕄) :
    iprop(copyRes m K agS agR c 1 29
      ∗ outShareAt m c 1 29
      ∗ peerOutAt c 1 29
      ∗ copyRes m K agS agR c 1 30
      ∗ outShareAt m c 1 30
      ∗ peerOutAt c 1 30
      ∗ owes (c : Thread nD τ) (O + tallyAt (dmaCell (fwd c 30) agR 1 30) () Nc + tallyAt (dmaCell (fwd c 29) agR 1 29) () Nc) W
      ∗ (∀ r, (recvRes m K agS c 1 29 ∗ recvRes m K agS c 1 30 ∗ owes (c : Thread nD τ) (O) (W)) -∗ Q r))
      ⊢ wp frame (wpE (defs₀ (F := F)) 𝒱₀ c none) Set.univ (k0_part91 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2339 c32_i32_2797) Q :=
  part91_spec m K c v2 v2339 c32_i32_2797 O W Q

theorem part92_spec' (c : Dev nD) (O : CellTallies nD τ sig Unit) (hmw1 : (levAts L lv : sProp 𝕄) ⊢ MayWait (c : Thread nD τ) (.dma (semAt (arr rsS) 0 1)) () O) (hmw2 : (levAts L lv : sProp 𝕄) ⊢ MayWait (c : Thread nD τ) (.dma (semAt (arr rsS) 0 2)) () O) (hmw3 : (levAts L lv : sProp 𝕄) ⊢ MayWait (c : Thread nD τ) (.dma (semAt (arr rsS) 0 3)) () O) (W : Waits sig Unit) (Q : (PUnit) → sProp 𝕄) :
    iprop(copyRes m K agS agR c 1 31
      ∗ outShareAt m c 1 31
      ∗ peerOutAt c 1 31
      ∗ recvRes m K rsS c 0 1
      ∗ recvRes m K rsS c 0 2
      ∗ recvRes m K rsS c 0 3
      ∗ levAts L lv
      ∗ owes (c : Thread nD τ) (O + tallyAt (dmaCell (fwd c 31) agR 1 31) () Nc) W
      ∗ (∀ r, (recvRes m K agS c 1 31 ∗ accSrcAt m c 0 1 ∗ closedAt m K c 0 1 rsS ∗ accSrcAt m c 0 2 ∗ closedAt m K c 0 2 rsS ∗ accSrcAt m c 0 3 ∗ closedAt m K c 0 3 rsS ∗ owes (c : Thread nD τ) (O) (insert (SemLoc.dma (semAt (arr rsS) 0 3), ()) (insert (SemLoc.dma (semAt (arr rsS) 0 2), ()) (insert (SemLoc.dma (semAt (arr rsS) 0 1), ()) (W))))) -∗ Q r))
      ⊢ wp frame (wpE (defs₀ (F := F)) 𝒱₀ c none) Set.univ (k0_part92 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part92_spec m K c O hmw1 hmw2 hmw3 W Q

theorem part93_spec' (c : Dev nD) (W : Waits sig Unit) (Q : (PUnit) → sProp 𝕄) :
    iprop(recvRes m K rsS c 0 4
      ∗ recvRes m K rsS c 0 5
      ∗ recvRes m K rsS c 0 6
      ∗ recvRes m K rsS c 0 7
      ∗ levAts L lv
      ∗ owes (c : Thread nD τ) (owedAfter c 155) W
      ∗ (∀ r, (accSrcAt m c 0 4 ∗ closedAt m K c 0 4 rsS ∗ accSrcAt m c 0 5 ∗ closedAt m K c 0 5 rsS ∗ accSrcAt m c 0 6 ∗ closedAt m K c 0 6 rsS ∗ accSrcAt m c 0 7 ∗ closedAt m K c 0 7 rsS ∗ owes (c : Thread nD τ) (owedAfter c 155) (insert (SemLoc.dma (semAt (arr rsS) 0 7), ()) (insert (SemLoc.dma (semAt (arr rsS) 0 6), ()) (insert (SemLoc.dma (semAt (arr rsS) 0 5), ()) (insert (SemLoc.dma (semAt (arr rsS) 0 4), ()) (W)))))) -∗ Q r))
      ⊢ wp frame (wpE (defs₀ (F := F)) 𝒱₀ c none) Set.univ (k0_part93 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part93_spec m K c W Q

theorem part94_spec' (c : Dev nD) (W : Waits sig Unit) (Q : (PUnit) → sProp 𝕄) :
    iprop(recvRes m K rsS c 0 8
      ∗ recvRes m K rsS c 0 9
      ∗ recvRes m K rsS c 0 10
      ∗ levAts L lv
      ∗ owes (c : Thread nD τ) (owedAfter c 155) W
      ∗ (∀ r, (accSrcAt m c 0 8 ∗ closedAt m K c 0 8 rsS ∗ accSrcAt m c 0 9 ∗ closedAt m K c 0 9 rsS ∗ accSrcAt m c 0 10 ∗ closedAt m K c 0 10 rsS ∗ owes (c : Thread nD τ) (owedAfter c 155) (insert (SemLoc.dma (semAt (arr rsS) 0 10), ()) (insert (SemLoc.dma (semAt (arr rsS) 0 9), ()) (insert (SemLoc.dma (semAt (arr rsS) 0 8), ()) (W))))) -∗ Q r))
      ⊢ wp frame (wpE (defs₀ (F := F)) 𝒱₀ c none) Set.univ (k0_part94 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part94_spec m K c W Q

theorem part95_spec' (c : Dev nD) (W : Waits sig Unit) (Q : (PUnit) → sProp 𝕄) :
    iprop(recvRes m K rsS c 0 11
      ∗ recvRes m K rsS c 0 12
      ∗ recvRes m K rsS c 0 13
      ∗ recvRes m K rsS c 0 14
      ∗ levAts L lv
      ∗ owes (c : Thread nD τ) (owedAfter c 155) W
      ∗ (∀ r, (accSrcAt m c 0 11 ∗ closedAt m K c 0 11 rsS ∗ accSrcAt m c 0 12 ∗ closedAt m K c 0 12 rsS ∗ accSrcAt m c 0 13 ∗ closedAt m K c 0 13 rsS ∗ accSrcAt m c 0 14 ∗ closedAt m K c 0 14 rsS ∗ owes (c : Thread nD τ) (owedAfter c 155) (insert (SemLoc.dma (semAt (arr rsS) 0 14), ()) (insert (SemLoc.dma (semAt (arr rsS) 0 13), ()) (insert (SemLoc.dma (semAt (arr rsS) 0 12), ()) (insert (SemLoc.dma (semAt (arr rsS) 0 11), ()) (W)))))) -∗ Q r))
      ⊢ wp frame (wpE (defs₀ (F := F)) 𝒱₀ c none) Set.univ (k0_part95 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part95_spec m K c W Q

theorem part96_spec' (c : Dev nD) (W : Waits sig Unit) (Q : (PUnit) → sProp 𝕄) :
    iprop(recvRes m K rsS c 0 15
      ∗ recvRes m K rsS c 0 16
      ∗ recvRes m K rsS c 0 17
      ∗ recvRes m K rsS c 0 18
      ∗ levAts L lv
      ∗ owes (c : Thread nD τ) (owedAfter c 155) W
      ∗ (∀ r, (accSrcAt m c 0 15 ∗ closedAt m K c 0 15 rsS ∗ accSrcAt m c 0 16 ∗ closedAt m K c 0 16 rsS ∗ accSrcAt m c 0 17 ∗ closedAt m K c 0 17 rsS ∗ accSrcAt m c 0 18 ∗ closedAt m K c 0 18 rsS ∗ owes (c : Thread nD τ) (owedAfter c 155) (insert (SemLoc.dma (semAt (arr rsS) 0 18), ()) (insert (SemLoc.dma (semAt (arr rsS) 0 17), ()) (insert (SemLoc.dma (semAt (arr rsS) 0 16), ()) (insert (SemLoc.dma (semAt (arr rsS) 0 15), ()) (W)))))) -∗ Q r))
      ⊢ wp frame (wpE (defs₀ (F := F)) 𝒱₀ c none) Set.univ (k0_part96 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part96_spec m K c W Q

theorem part97_spec' (c : Dev nD) (W : Waits sig Unit) (Q : (PUnit) → sProp 𝕄) :
    iprop(recvRes m K rsS c 0 19
      ∗ recvRes m K rsS c 0 20
      ∗ recvRes m K rsS c 0 21
      ∗ recvRes m K rsS c 0 22
      ∗ levAts L lv
      ∗ owes (c : Thread nD τ) (owedAfter c 155) W
      ∗ (∀ r, (accSrcAt m c 0 19 ∗ closedAt m K c 0 19 rsS ∗ accSrcAt m c 0 20 ∗ closedAt m K c 0 20 rsS ∗ accSrcAt m c 0 21 ∗ closedAt m K c 0 21 rsS ∗ accSrcAt m c 0 22 ∗ closedAt m K c 0 22 rsS ∗ owes (c : Thread nD τ) (owedAfter c 155) (insert (SemLoc.dma (semAt (arr rsS) 0 22), ()) (insert (SemLoc.dma (semAt (arr rsS) 0 21), ()) (insert (SemLoc.dma (semAt (arr rsS) 0 20), ()) (insert (SemLoc.dma (semAt (arr rsS) 0 19), ()) (W)))))) -∗ Q r))
      ⊢ wp frame (wpE (defs₀ (F := F)) 𝒱₀ c none) Set.univ (k0_part97 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part97_spec m K c W Q

theorem part98_spec' (c : Dev nD) (W : Waits sig Unit) (Q : (PUnit) → sProp 𝕄) :
    iprop(recvRes m K rsS c 0 23
      ∗ recvRes m K rsS c 0 24
      ∗ recvRes m K rsS c 0 25
      ∗ levAts L lv
      ∗ owes (c : Thread nD τ) (owedAfter c 155) W
      ∗ (∀ r, (accSrcAt m c 0 23 ∗ closedAt m K c 0 23 rsS ∗ accSrcAt m c 0 24 ∗ closedAt m K c 0 24 rsS ∗ accSrcAt m c 0 25 ∗ closedAt m K c 0 25 rsS ∗ owes (c : Thread nD τ) (owedAfter c 155) (insert (SemLoc.dma (semAt (arr rsS) 0 25), ()) (insert (SemLoc.dma (semAt (arr rsS) 0 24), ()) (insert (SemLoc.dma (semAt (arr rsS) 0 23), ()) (W))))) -∗ Q r))
      ⊢ wp frame (wpE (defs₀ (F := F)) 𝒱₀ c none) Set.univ (k0_part98 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part98_spec m K c W Q

theorem part99_spec' (c : Dev nD) (W : Waits sig Unit) (Q : (PUnit) → sProp 𝕄) :
    iprop(recvRes m K rsS c 0 26
      ∗ recvRes m K rsS c 0 27
      ∗ recvRes m K rsS c 0 28
      ∗ recvRes m K rsS c 0 29
      ∗ levAts L lv
      ∗ owes (c : Thread nD τ) (owedAfter c 155) W
      ∗ (∀ r, (accSrcAt m c 0 26 ∗ closedAt m K c 0 26 rsS ∗ accSrcAt m c 0 27 ∗ closedAt m K c 0 27 rsS ∗ accSrcAt m c 0 28 ∗ closedAt m K c 0 28 rsS ∗ accSrcAt m c 0 29 ∗ closedAt m K c 0 29 rsS ∗ owes (c : Thread nD τ) (owedAfter c 155) (insert (SemLoc.dma (semAt (arr rsS) 0 29), ()) (insert (SemLoc.dma (semAt (arr rsS) 0 28), ()) (insert (SemLoc.dma (semAt (arr rsS) 0 27), ()) (insert (SemLoc.dma (semAt (arr rsS) 0 26), ()) (W)))))) -∗ Q r))
      ⊢ wp frame (wpE (defs₀ (F := F)) 𝒱₀ c none) Set.univ (k0_part99 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part99_spec m K c W Q

theorem part100_spec' (c : Dev nD) (W : Waits sig Unit) (Q : (PUnit) → sProp 𝕄) :
    iprop(recvRes m K rsS c 0 30
      ∗ recvRes m K rsS c 0 31
      ∗ recvRes m K rsS c 1 1
      ∗ recvRes m K rsS c 1 2
      ∗ levAts L lv
      ∗ owes (c : Thread nD τ) (owedAfter c 155) W
      ∗ (∀ r, (accSrcAt m c 0 30 ∗ closedAt m K c 0 30 rsS ∗ accSrcAt m c 0 31 ∗ closedAt m K c 0 31 rsS ∗ accSrcAt m c 1 1 ∗ closedAt m K c 1 1 rsS ∗ accSrcAt m c 1 2 ∗ closedAt m K c 1 2 rsS ∗ owes (c : Thread nD τ) (owedAfter c 155) (insert (SemLoc.dma (semAt (arr rsS) 1 2), ()) (insert (SemLoc.dma (semAt (arr rsS) 1 1), ()) (insert (SemLoc.dma (semAt (arr rsS) 0 31), ()) (insert (SemLoc.dma (semAt (arr rsS) 0 30), ()) (W)))))) -∗ Q r))
      ⊢ wp frame (wpE (defs₀ (F := F)) 𝒱₀ c none) Set.univ (k0_part100 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part100_spec m K c W Q

theorem part101_spec' (c : Dev nD) (W : Waits sig Unit) (Q : (PUnit) → sProp 𝕄) :
    iprop(recvRes m K rsS c 1 3
      ∗ recvRes m K rsS c 1 4
      ∗ recvRes m K rsS c 1 5
      ∗ recvRes m K rsS c 1 6
      ∗ levAts L lv
      ∗ owes (c : Thread nD τ) (owedAfter c 155) W
      ∗ (∀ r, (accSrcAt m c 1 3 ∗ closedAt m K c 1 3 rsS ∗ accSrcAt m c 1 4 ∗ closedAt m K c 1 4 rsS ∗ accSrcAt m c 1 5 ∗ closedAt m K c 1 5 rsS ∗ accSrcAt m c 1 6 ∗ closedAt m K c 1 6 rsS ∗ owes (c : Thread nD τ) (owedAfter c 155) (insert (SemLoc.dma (semAt (arr rsS) 1 6), ()) (insert (SemLoc.dma (semAt (arr rsS) 1 5), ()) (insert (SemLoc.dma (semAt (arr rsS) 1 4), ()) (insert (SemLoc.dma (semAt (arr rsS) 1 3), ()) (W)))))) -∗ Q r))
      ⊢ wp frame (wpE (defs₀ (F := F)) 𝒱₀ c none) Set.univ (k0_part101 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part101_spec m K c W Q

theorem part102_spec' (c : Dev nD) (W : Waits sig Unit) (Q : (PUnit) → sProp 𝕄) :
    iprop(recvRes m K rsS c 1 7
      ∗ recvRes m K rsS c 1 8
      ∗ recvRes m K rsS c 1 9
      ∗ levAts L lv
      ∗ owes (c : Thread nD τ) (owedAfter c 155) W
      ∗ (∀ r, (accSrcAt m c 1 7 ∗ closedAt m K c 1 7 rsS ∗ accSrcAt m c 1 8 ∗ closedAt m K c 1 8 rsS ∗ accSrcAt m c 1 9 ∗ closedAt m K c 1 9 rsS ∗ owes (c : Thread nD τ) (owedAfter c 155) (insert (SemLoc.dma (semAt (arr rsS) 1 9), ()) (insert (SemLoc.dma (semAt (arr rsS) 1 8), ()) (insert (SemLoc.dma (semAt (arr rsS) 1 7), ()) (W))))) -∗ Q r))
      ⊢ wp frame (wpE (defs₀ (F := F)) 𝒱₀ c none) Set.univ (k0_part102 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part102_spec m K c W Q

theorem part103_spec' (c : Dev nD) (W : Waits sig Unit) (Q : (PUnit) → sProp 𝕄) :
    iprop(recvRes m K rsS c 1 10
      ∗ recvRes m K rsS c 1 11
      ∗ recvRes m K rsS c 1 12
      ∗ recvRes m K rsS c 1 13
      ∗ levAts L lv
      ∗ owes (c : Thread nD τ) (owedAfter c 155) W
      ∗ (∀ r, (accSrcAt m c 1 10 ∗ closedAt m K c 1 10 rsS ∗ accSrcAt m c 1 11 ∗ closedAt m K c 1 11 rsS ∗ accSrcAt m c 1 12 ∗ closedAt m K c 1 12 rsS ∗ accSrcAt m c 1 13 ∗ closedAt m K c 1 13 rsS ∗ owes (c : Thread nD τ) (owedAfter c 155) (insert (SemLoc.dma (semAt (arr rsS) 1 13), ()) (insert (SemLoc.dma (semAt (arr rsS) 1 12), ()) (insert (SemLoc.dma (semAt (arr rsS) 1 11), ()) (insert (SemLoc.dma (semAt (arr rsS) 1 10), ()) (W)))))) -∗ Q r))
      ⊢ wp frame (wpE (defs₀ (F := F)) 𝒱₀ c none) Set.univ (k0_part103 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part103_spec m K c W Q

theorem part104_spec' (c : Dev nD) (W : Waits sig Unit) (Q : (PUnit) → sProp 𝕄) :
    iprop(recvRes m K rsS c 1 14
      ∗ recvRes m K rsS c 1 15
      ∗ recvRes m K rsS c 1 16
      ∗ recvRes m K rsS c 1 17
      ∗ levAts L lv
      ∗ owes (c : Thread nD τ) (owedAfter c 155) W
      ∗ (∀ r, (accSrcAt m c 1 14 ∗ closedAt m K c 1 14 rsS ∗ accSrcAt m c 1 15 ∗ closedAt m K c 1 15 rsS ∗ accSrcAt m c 1 16 ∗ closedAt m K c 1 16 rsS ∗ accSrcAt m c 1 17 ∗ closedAt m K c 1 17 rsS ∗ owes (c : Thread nD τ) (owedAfter c 155) (insert (SemLoc.dma (semAt (arr rsS) 1 17), ()) (insert (SemLoc.dma (semAt (arr rsS) 1 16), ()) (insert (SemLoc.dma (semAt (arr rsS) 1 15), ()) (insert (SemLoc.dma (semAt (arr rsS) 1 14), ()) (W)))))) -∗ Q r))
      ⊢ wp frame (wpE (defs₀ (F := F)) 𝒱₀ c none) Set.univ (k0_part104 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part104_spec m K c W Q

theorem part105_spec' (c : Dev nD) (W : Waits sig Unit) (Q : (PUnit) → sProp 𝕄) :
    iprop(recvRes m K rsS c 1 18
      ∗ recvRes m K rsS c 1 19
      ∗ recvRes m K rsS c 1 20
      ∗ recvRes m K rsS c 1 21
      ∗ levAts L lv
      ∗ owes (c : Thread nD τ) (owedAfter c 155) W
      ∗ (∀ r, (accSrcAt m c 1 18 ∗ closedAt m K c 1 18 rsS ∗ accSrcAt m c 1 19 ∗ closedAt m K c 1 19 rsS ∗ accSrcAt m c 1 20 ∗ closedAt m K c 1 20 rsS ∗ accSrcAt m c 1 21 ∗ closedAt m K c 1 21 rsS ∗ owes (c : Thread nD τ) (owedAfter c 155) (insert (SemLoc.dma (semAt (arr rsS) 1 21), ()) (insert (SemLoc.dma (semAt (arr rsS) 1 20), ()) (insert (SemLoc.dma (semAt (arr rsS) 1 19), ()) (insert (SemLoc.dma (semAt (arr rsS) 1 18), ()) (W)))))) -∗ Q r))
      ⊢ wp frame (wpE (defs₀ (F := F)) 𝒱₀ c none) Set.univ (k0_part105 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part105_spec m K c W Q

theorem part106_spec' (c : Dev nD) (W : Waits sig Unit) (Q : (PUnit) → sProp 𝕄) :
    iprop(recvRes m K rsS c 1 22
      ∗ recvRes m K rsS c 1 23
      ∗ recvRes m K rsS c 1 24
      ∗ levAts L lv
      ∗ owes (c : Thread nD τ) (owedAfter c 155) W
      ∗ (∀ r, (accSrcAt m c 1 22 ∗ closedAt m K c 1 22 rsS ∗ accSrcAt m c 1 23 ∗ closedAt m K c 1 23 rsS ∗ accSrcAt m c 1 24 ∗ closedAt m K c 1 24 rsS ∗ owes (c : Thread nD τ) (owedAfter c 155) (insert (SemLoc.dma (semAt (arr rsS) 1 24), ()) (insert (SemLoc.dma (semAt (arr rsS) 1 23), ()) (insert (SemLoc.dma (semAt (arr rsS) 1 22), ()) (W))))) -∗ Q r))
      ⊢ wp frame (wpE (defs₀ (F := F)) 𝒱₀ c none) Set.univ (k0_part106 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part106_spec m K c W Q

theorem part107_spec' (c : Dev nD) (W : Waits sig Unit) (Q : (PUnit) → sProp 𝕄) :
    iprop(recvRes m K rsS c 1 25
      ∗ recvRes m K rsS c 1 26
      ∗ recvRes m K rsS c 1 27
      ∗ recvRes m K rsS c 1 28
      ∗ levAts L lv
      ∗ owes (c : Thread nD τ) (owedAfter c 155) W
      ∗ (∀ r, (accSrcAt m c 1 25 ∗ closedAt m K c 1 25 rsS ∗ accSrcAt m c 1 26 ∗ closedAt m K c 1 26 rsS ∗ accSrcAt m c 1 27 ∗ closedAt m K c 1 27 rsS ∗ accSrcAt m c 1 28 ∗ closedAt m K c 1 28 rsS ∗ owes (c : Thread nD τ) (owedAfter c 155) (insert (SemLoc.dma (semAt (arr rsS) 1 28), ()) (insert (SemLoc.dma (semAt (arr rsS) 1 27), ()) (insert (SemLoc.dma (semAt (arr rsS) 1 26), ()) (insert (SemLoc.dma (semAt (arr rsS) 1 25), ()) (W)))))) -∗ Q r))
      ⊢ wp frame (wpE (defs₀ (F := F)) 𝒱₀ c none) Set.univ (k0_part107 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part107_spec m K c W Q

theorem part108_spec' (c : Dev nD) (v2 : BitVec 32) (W : Waits sig Unit) (Q : (PUnit) → sProp 𝕄) :
    iprop(recvRes m K rsS c 1 29
      ∗ recvRes m K rsS c 1 30
      ∗ recvRes m K rsS c 1 31
      ∗ levAts L lv
      ∗ owes (c : Thread nD τ) (owedAfter c 155) W
      ∗ (∀ r, (accSrcAt m c 1 29 ∗ closedAt m K c 1 29 rsS ∗ accSrcAt m c 1 30 ∗ closedAt m K c 1 30 rsS ∗ accSrcAt m c 1 31 ∗ closedAt m K c 1 31 rsS ∗ owes (c : Thread nD τ) (owedAfter c 155) (insert (SemLoc.dma (semAt (arr rsS) 1 31), ()) (insert (SemLoc.dma (semAt (arr rsS) 1 30), ()) (insert (SemLoc.dma (semAt (arr rsS) 1 29), ()) (W))))) -∗ Q r))
      ⊢ wp frame (wpE (defs₀ (F := F)) 𝒱₀ c none) Set.univ (k0_part108 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part108_spec m K c v2 W Q

theorem part109_spec' (c : Dev nD) (v2 : BitVec 32) (W : Waits sig Unit) (Q : (Σ' (v2718 : BitVec 32), BitVec 32) → sProp 𝕄) :
    iprop(recvRes m K agR c 0 1
      ∗ recvRes m K agR c 0 2
      ∗ recvRes m K agR c 0 3
      ∗ levAts L lv
      ∗ owes (c : Thread nD τ) (owedAfter c 155) W
      ∗ (∀ r, (gotAgR m c 0 1 ∗ closedAt m K c 0 1 agR ∗ gotAgR m c 0 2 ∗ closedAt m K c 0 2 agR ∗ gotAgR m c 0 3 ∗ closedAt m K c 0 3 agR ∗ owes (c : Thread nD τ) (owedAfter c 155) (insert (SemLoc.dma (semAt (arr agR) 0 3), ()) (insert (SemLoc.dma (semAt (arr agR) 0 2), ()) (insert (SemLoc.dma (semAt (arr agR) 0 1), ()) (W))))) -∗ Q r))
      ⊢ wp frame (wpE (defs₀ (F := F)) 𝒱₀ c none) Set.univ (k0_part109 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part109_spec m K c v2 W Q

theorem part110_spec' (c : Dev nD) (v2 : BitVec 32) (v2718 : BitVec 32) (c32_i32_3491 : BitVec 32) (W : Waits sig Unit) (Q : (Σ' (v2741 : BitVec 32), BitVec 32) → sProp 𝕄) :
    iprop(recvRes m K agR c 0 4
      ∗ recvRes m K agR c 0 5
      ∗ levAts L lv
      ∗ owes (c : Thread nD τ) (owedAfter c 155) W
      ∗ (∀ r, (gotAgR m c 0 4 ∗ closedAt m K c 0 4 agR ∗ gotAgR m c 0 5 ∗ closedAt m K c 0 5 agR ∗ owes (c : Thread nD τ) (owedAfter c 155) (insert (SemLoc.dma (semAt (arr agR) 0 5), ()) (insert (SemLoc.dma (semAt (arr agR) 0 4), ()) (W)))) -∗ Q r))
      ⊢ wp frame (wpE (defs₀ (F := F)) 𝒱₀ c none) Set.univ (k0_part110 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2718 c32_i32_3491) Q :=
  part110_spec m K c v2 v2718 c32_i32_3491 W Q

theorem part111_spec' (c : Dev nD) (v2 : BitVec 32) (v2741 : BitVec 32) (c1_i32_3524 : BitVec 32) (W : Waits sig Unit) (Q : (PUnit) → sProp 𝕄) :
    iprop(recvRes m K agR c 0 6
      ∗ recvRes m K agR c 0 7
      ∗ recvRes m K agR c 0 8
      ∗ levAts L lv
      ∗ owes (c : Thread nD τ) (owedAfter c 155) W
      ∗ (∀ r, (gotAgR m c 0 6 ∗ closedAt m K c 0 6 agR ∗ gotAgR m c 0 7 ∗ closedAt m K c 0 7 agR ∗ gotAgR m c 0 8 ∗ closedAt m K c 0 8 agR ∗ owes (c : Thread nD τ) (owedAfter c 155) (insert (SemLoc.dma (semAt (arr agR) 0 8), ()) (insert (SemLoc.dma (semAt (arr agR) 0 7), ()) (insert (SemLoc.dma (semAt (arr agR) 0 6), ()) (W))))) -∗ Q r))
      ⊢ wp frame (wpE (defs₀ (F := F)) 𝒱₀ c none) Set.univ (k0_part111 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2741 c1_i32_3524) Q :=
  part111_spec m K c v2 v2741 c1_i32_3524 W Q

theorem part112_spec' (c : Dev nD) (v2 : BitVec 32) (W : Waits sig Unit) (Q : (BitVec 32) → sProp 𝕄) :
    iprop(recvRes m K agR c 0 9
      ∗ recvRes m K agR c 0 10
      ∗ levAts L lv
      ∗ owes (c : Thread nD τ) (owedAfter c 155) W
      ∗ (∀ r, (gotAgR m c 0 9 ∗ closedAt m K c 0 9 agR ∗ gotAgR m c 0 10 ∗ closedAt m K c 0 10 agR ∗ owes (c : Thread nD τ) (owedAfter c 155) (insert (SemLoc.dma (semAt (arr agR) 0 10), ()) (insert (SemLoc.dma (semAt (arr agR) 0 9), ()) (W)))) -∗ Q r))
      ⊢ wp frame (wpE (defs₀ (F := F)) 𝒱₀ c none) Set.univ (k0_part112 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part112_spec m K c v2 W Q

theorem part113_spec' (c : Dev nD) (v2 : BitVec 32) (v2796 : BitVec 32) (W : Waits sig Unit) (Q : (PUnit) → sProp 𝕄) :
    iprop(recvRes m K agR c 0 11
      ∗ recvRes m K agR c 0 12
      ∗ levAts L lv
      ∗ owes (c : Thread nD τ) (owedAfter c 155) W
      ∗ (∀ r, (gotAgR m c 0 11 ∗ closedAt m K c 0 11 agR ∗ gotAgR m c 0 12 ∗ closedAt m K c 0 12 agR ∗ owes (c : Thread nD τ) (owedAfter c 155) (insert (SemLoc.dma (semAt (arr agR) 0 12), ()) (insert (SemLoc.dma (semAt (arr agR) 0 11), ()) (W)))) -∗ Q r))
      ⊢ wp frame (wpE (defs₀ (F := F)) 𝒱₀ c none) Set.univ (k0_part113 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2796) Q :=
  part113_spec m K c v2 v2796 W Q

theorem part114_spec' (c : Dev nD) (v2 : BitVec 32) (W : Waits sig Unit) (Q : (Σ' (v2850 : BitVec 32), BitVec 32) → sProp 𝕄) :
    iprop(recvRes m K agR c 0 13
      ∗ recvRes m K agR c 0 14
      ∗ recvRes m K agR c 0 15
      ∗ levAts L lv
      ∗ owes (c : Thread nD τ) (owedAfter c 155) W
      ∗ (∀ r, (gotAgR m c 0 13 ∗ closedAt m K c 0 13 agR ∗ gotAgR m c 0 14 ∗ closedAt m K c 0 14 agR ∗ gotAgR m c 0 15 ∗ closedAt m K c 0 15 agR ∗ owes (c : Thread nD τ) (owedAfter c 155) (insert (SemLoc.dma (semAt (arr agR) 0 15), ()) (insert (SemLoc.dma (semAt (arr agR) 0 14), ()) (insert (SemLoc.dma (semAt (arr agR) 0 13), ()) (W))))) -∗ Q r))
      ⊢ wp frame (wpE (defs₀ (F := F)) 𝒱₀ c none) Set.univ (k0_part114 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part114_spec m K c v2 W Q

theorem part115_spec' (c : Dev nD) (v2 : BitVec 32) (v2850 : BitVec 32) (c32_i32_3647 : BitVec 32) (W : Waits sig Unit) (Q : (Σ' (v2873 : BitVec 32), BitVec 32) → sProp 𝕄) :
    iprop(recvRes m K agR c 0 16
      ∗ recvRes m K agR c 0 17
      ∗ levAts L lv
      ∗ owes (c : Thread nD τ) (owedAfter c 155) W
      ∗ (∀ r, (gotAgR m c 0 16 ∗ closedAt m K c 0 16 agR ∗ gotAgR m c 0 17 ∗ closedAt m K c 0 17 agR ∗ owes (c : Thread nD τ) (owedAfter c 155) (insert (SemLoc.dma (semAt (arr agR) 0 17), ()) (insert (SemLoc.dma (semAt (arr agR) 0 16), ()) (W)))) -∗ Q r))
      ⊢ wp frame (wpE (defs₀ (F := F)) 𝒱₀ c none) Set.univ (k0_part115 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2850 c32_i32_3647) Q :=
  part115_spec m K c v2 v2850 c32_i32_3647 W Q

theorem part116_spec' (c : Dev nD) (v2 : BitVec 32) (v2873 : BitVec 32) (c1_i32_3680 : BitVec 32) (W : Waits sig Unit) (Q : (PUnit) → sProp 𝕄) :
    iprop(recvRes m K agR c 0 18
      ∗ recvRes m K agR c 0 19
      ∗ recvRes m K agR c 0 20
      ∗ levAts L lv
      ∗ owes (c : Thread nD τ) (owedAfter c 155) W
      ∗ (∀ r, (gotAgR m c 0 18 ∗ closedAt m K c 0 18 agR ∗ gotAgR m c 0 19 ∗ closedAt m K c 0 19 agR ∗ gotAgR m c 0 20 ∗ closedAt m K c 0 20 agR ∗ owes (c : Thread nD τ) (owedAfter c 155) (insert (SemLoc.dma (semAt (arr agR) 0 20), ()) (insert (SemLoc.dma (semAt (arr agR) 0 19), ()) (insert (SemLoc.dma (semAt (arr agR) 0 18), ()) (W))))) -∗ Q r))
      ⊢ wp frame (wpE (defs₀ (F := F)) 𝒱₀ c none) Set.univ (k0_part116 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2873 c1_i32_3680) Q :=
  part116_spec m K c v2 v2873 c1_i32_3680 W Q

theorem part117_spec' (c : Dev nD) (v2 : BitVec 32) (W : Waits sig Unit) (Q : (BitVec 32) → sProp 𝕄) :
    iprop(recvRes m K agR c 0 21
      ∗ recvRes m K agR c 0 22
      ∗ levAts L lv
      ∗ owes (c : Thread nD τ) (owedAfter c 155) W
      ∗ (∀ r, (gotAgR m c 0 21 ∗ closedAt m K c 0 21 agR ∗ gotAgR m c 0 22 ∗ closedAt m K c 0 22 agR ∗ owes (c : Thread nD τ) (owedAfter c 155) (insert (SemLoc.dma (semAt (arr agR) 0 22), ()) (insert (SemLoc.dma (semAt (arr agR) 0 21), ()) (W)))) -∗ Q r))
      ⊢ wp frame (wpE (defs₀ (F := F)) 𝒱₀ c none) Set.univ (k0_part117 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part117_spec m K c v2 W Q

theorem part118_spec' (c : Dev nD) (v2 : BitVec 32) (v2928 : BitVec 32) (W : Waits sig Unit) (Q : (PUnit) → sProp 𝕄) :
    iprop(recvRes m K agR c 0 23
      ∗ recvRes m K agR c 0 24
      ∗ levAts L lv
      ∗ owes (c : Thread nD τ) (owedAfter c 155) W
      ∗ (∀ r, (gotAgR m c 0 23 ∗ closedAt m K c 0 23 agR ∗ gotAgR m c 0 24 ∗ closedAt m K c 0 24 agR ∗ owes (c : Thread nD τ) (owedAfter c 155) (insert (SemLoc.dma (semAt (arr agR) 0 24), ()) (insert (SemLoc.dma (semAt (arr agR) 0 23), ()) (W)))) -∗ Q r))
      ⊢ wp frame (wpE (defs₀ (F := F)) 𝒱₀ c none) Set.univ (k0_part118 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2928) Q :=
  part118_spec m K c v2 v2928 W Q

theorem part119_spec' (c : Dev nD) (v2 : BitVec 32) (W : Waits sig Unit) (Q : (Σ' (v2982 : BitVec 32), BitVec 32) → sProp 𝕄) :
    iprop(recvRes m K agR c 0 25
      ∗ recvRes m K agR c 0 26
      ∗ recvRes m K agR c 0 27
      ∗ levAts L lv
      ∗ owes (c : Thread nD τ) (owedAfter c 155) W
      ∗ (∀ r, (gotAgR m c 0 25 ∗ closedAt m K c 0 25 agR ∗ gotAgR m c 0 26 ∗ closedAt m K c 0 26 agR ∗ gotAgR m c 0 27 ∗ closedAt m K c 0 27 agR ∗ owes (c : Thread nD τ) (owedAfter c 155) (insert (SemLoc.dma (semAt (arr agR) 0 27), ()) (insert (SemLoc.dma (semAt (arr agR) 0 26), ()) (insert (SemLoc.dma (semAt (arr agR) 0 25), ()) (W))))) -∗ Q r))
      ⊢ wp frame (wpE (defs₀ (F := F)) 𝒱₀ c none) Set.univ (k0_part119 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part119_spec m K c v2 W Q

theorem part120_spec' (c : Dev nD) (v2 : BitVec 32) (v2982 : BitVec 32) (c32_i32_3803 : BitVec 32) (W : Waits sig Unit) (Q : (Σ' (v3005 : BitVec 32), BitVec 32) → sProp 𝕄) :
    iprop(recvRes m K agR c 0 28
      ∗ recvRes m K agR c 0 29
      ∗ levAts L lv
      ∗ owes (c : Thread nD τ) (owedAfter c 155) W
      ∗ (∀ r, (gotAgR m c 0 28 ∗ closedAt m K c 0 28 agR ∗ gotAgR m c 0 29 ∗ closedAt m K c 0 29 agR ∗ owes (c : Thread nD τ) (owedAfter c 155) (insert (SemLoc.dma (semAt (arr agR) 0 29), ()) (insert (SemLoc.dma (semAt (arr agR) 0 28), ()) (W)))) -∗ Q r))
      ⊢ wp frame (wpE (defs₀ (F := F)) 𝒱₀ c none) Set.univ (k0_part120 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2982 c32_i32_3803) Q :=
  part120_spec m K c v2 v2982 c32_i32_3803 W Q

theorem part122_spec' (c : Dev nD) (v2 : BitVec 32) (v3033 : BitVec 32) (c0_i32_3867 : BitVec 32) (W : Waits sig Unit) (Q : (BitVec 32) → sProp 𝕄) :
    iprop(recvRes m K agR c 1 1
      ∗ recvRes m K agR c 1 2
      ∗ recvRes m K agR c 1 3
      ∗ levAts L lv
      ∗ owes (c : Thread nD τ) (owedAfter c 155) W
      ∗ (∀ r, (gotAgR m c 1 1 ∗ closedAt m K c 1 1 agR ∗ gotAgR m c 1 2 ∗ closedAt m K c 1 2 agR ∗ gotAgR m c 1 3 ∗ closedAt m K c 1 3 agR ∗ owes (c : Thread nD τ) (owedAfter c 155) (insert (SemLoc.dma (semAt (arr agR) 1 3), ()) (insert (SemLoc.dma (semAt (arr agR) 1 2), ()) (insert (SemLoc.dma (semAt (arr agR) 1 1), ()) (W))))) -∗ Q r))
      ⊢ wp frame (wpE (defs₀ (F := F)) 𝒱₀ c none) Set.univ (k0_part122 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3033 c0_i32_3867) Q :=
  part122_spec m K c v2 v3033 c0_i32_3867 W Q

theorem part123_spec' (c : Dev nD) (v2 : BitVec 32) (v3061 : BitVec 32) (W : Waits sig Unit) (Q : (BitVec 32) → sProp 𝕄) :
    iprop(recvRes m K agR c 1 4
      ∗ recvRes m K agR c 1 5
      ∗ levAts L lv
      ∗ owes (c : Thread nD τ) (owedAfter c 155) W
      ∗ (∀ r, (gotAgR m c 1 4 ∗ closedAt m K c 1 4 agR ∗ gotAgR m c 1 5 ∗ closedAt m K c 1 5 agR ∗ owes (c : Thread nD τ) (owedAfter c 155) (insert (SemLoc.dma (semAt (arr agR) 1 5), ()) (insert (SemLoc.dma (semAt (arr agR) 1 4), ()) (W)))) -∗ Q r))
      ⊢ wp frame (wpE (defs₀ (F := F)) 𝒱₀ c none) Set.univ (k0_part123 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3061) Q :=
  part123_spec m K c v2 v3061 W Q

theorem part124_spec' (c : Dev nD) (v2 : BitVec 32) (v3085 : BitVec 32) (W : Waits sig Unit) (Q : (PUnit) → sProp 𝕄) :
    iprop(recvRes m K agR c 1 6
      ∗ recvRes m K agR c 1 7
      ∗ levAts L lv
      ∗ owes (c : Thread nD τ) (owedAfter c 155) W
      ∗ (∀ r, (gotAgR m c 1 6 ∗ closedAt m K c 1 6 agR ∗ gotAgR m c 1 7 ∗ closedAt m K c 1 7 agR ∗ owes (c : Thread nD τ) (owedAfter c 155) (insert (SemLoc.dma (semAt (arr agR) 1 7), ()) (insert (SemLoc.dma (semAt (arr agR) 1 6), ()) (W)))) -∗ Q r))
      ⊢ wp frame (wpE (defs₀ (F := F)) 𝒱₀ c none) Set.univ (k0_part124 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3085) Q :=
  part124_spec m K c v2 v3085 W Q

theorem part125_spec' (c : Dev nD) (v2 : BitVec 32) (W : Waits sig Unit) (Q : (Σ' (v3140 : BitVec 32), BitVec 32) → sProp 𝕄) :
    iprop(recvRes m K agR c 1 8
      ∗ recvRes m K agR c 1 9
      ∗ recvRes m K agR c 1 10
      ∗ levAts L lv
      ∗ owes (c : Thread nD τ) (owedAfter c 155) W
      ∗ (∀ r, (gotAgR m c 1 8 ∗ closedAt m K c 1 8 agR ∗ gotAgR m c 1 9 ∗ closedAt m K c 1 9 agR ∗ gotAgR m c 1 10 ∗ closedAt m K c 1 10 agR ∗ owes (c : Thread nD τ) (owedAfter c 155) (insert (SemLoc.dma (semAt (arr agR) 1 10), ()) (insert (SemLoc.dma (semAt (arr agR) 1 9), ()) (insert (SemLoc.dma (semAt (arr agR) 1 8), ()) (W))))) -∗ Q r))
      ⊢ wp frame (wpE (defs₀ (F := F)) 𝒱₀ c none) Set.univ (k0_part125 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part125_spec m K c v2 W Q

theorem part126_spec' (c : Dev nD) (v2 : BitVec 32) (v3140 : BitVec 32) (c32_i32_3990 : BitVec 32) (W : Waits sig Unit) (Q : (Σ' (v3165 : BitVec 32), BitVec 32) → sProp 𝕄) :
    iprop(recvRes m K agR c 1 11
      ∗ recvRes m K agR c 1 12
      ∗ levAts L lv
      ∗ owes (c : Thread nD τ) (owedAfter c 155) W
      ∗ (∀ r, (gotAgR m c 1 11 ∗ closedAt m K c 1 11 agR ∗ gotAgR m c 1 12 ∗ closedAt m K c 1 12 agR ∗ owes (c : Thread nD τ) (owedAfter c 155) (insert (SemLoc.dma (semAt (arr agR) 1 12), ()) (insert (SemLoc.dma (semAt (arr agR) 1 11), ()) (W)))) -∗ Q r))
      ⊢ wp frame (wpE (defs₀ (F := F)) 𝒱₀ c none) Set.univ (k0_part126 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3140 c32_i32_3990) Q :=
  part126_spec m K c v2 v3140 c32_i32_3990 W Q

theorem part127_spec' (c : Dev nD) (v2 : BitVec 32) (v3165 : BitVec 32) (c0_i32_4023 : BitVec 32) (W : Waits sig Unit) (Q : (BitVec 32) → sProp 𝕄) :
    iprop(recvRes m K agR c 1 13
      ∗ recvRes m K agR c 1 14
      ∗ recvRes m K agR c 1 15
      ∗ levAts L lv
      ∗ owes (c : Thread nD τ) (owedAfter c 155) W
      ∗ (∀ r, (gotAgR m c 1 13 ∗ closedAt m K c 1 13 agR ∗ gotAgR m c 1 14 ∗ closedAt m K c 1 14 agR ∗ gotAgR m c 1 15 ∗ closedAt m K c 1 15 agR ∗ owes (c : Thread nD τ) (owedAfter c 155) (insert (SemLoc.dma (semAt (arr agR) 1 15), ()) (insert (SemLoc.dma (semAt (arr agR) 1 14), ()) (insert (SemLoc.dma (semAt (arr agR) 1 13), ()) (W))))) -∗ Q r))
      ⊢ wp frame (wpE (defs₀ (F := F)) 𝒱₀ c none) Set.univ (k0_part127 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3165 c0_i32_4023) Q :=
  part127_spec m K c v2 v3165 c0_i32_4023 W Q

theorem part128_spec' (c : Dev nD) (v2 : BitVec 32) (v3193 : BitVec 32) (W : Waits sig Unit) (Q : (BitVec 32) → sProp 𝕄) :
    iprop(recvRes m K agR c 1 16
      ∗ recvRes m K agR c 1 17
      ∗ levAts L lv
      ∗ owes (c : Thread nD τ) (owedAfter c 155) W
      ∗ (∀ r, (gotAgR m c 1 16 ∗ closedAt m K c 1 16 agR ∗ gotAgR m c 1 17 ∗ closedAt m K c 1 17 agR ∗ owes (c : Thread nD τ) (owedAfter c 155) (insert (SemLoc.dma (semAt (arr agR) 1 17), ()) (insert (SemLoc.dma (semAt (arr agR) 1 16), ()) (W)))) -∗ Q r))
      ⊢ wp frame (wpE (defs₀ (F := F)) 𝒱₀ c none) Set.univ (k0_part128 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3193) Q :=
  part128_spec m K c v2 v3193 W Q

theorem part129_spec' (c : Dev nD) (v2 : BitVec 32) (v3217 : BitVec 32) (W : Waits sig Unit) (Q : (PUnit) → sProp 𝕄) :
    iprop(recvRes m K agR c 1 18
      ∗ recvRes m K agR c 1 19
      ∗ levAts L lv
      ∗ owes (c : Thread nD τ) (owedAfter c 155) W
      ∗ (∀ r, (gotAgR m c 1 18 ∗ closedAt m K c 1 18 agR ∗ gotAgR m c 1 19 ∗ closedAt m K c 1 19 agR ∗ owes (c : Thread nD τ) (owedAfter c 155) (insert (SemLoc.dma (semAt (arr agR) 1 19), ()) (insert (SemLoc.dma (semAt (arr agR) 1 18), ()) (W)))) -∗ Q r))
      ⊢ wp frame (wpE (defs₀ (F := F)) 𝒱₀ c none) Set.univ (k0_part129 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3217) Q :=
  part129_spec m K c v2 v3217 W Q

theorem part130_spec' (c : Dev nD) (v2 : BitVec 32) (W : Waits sig Unit) (Q : (Σ' (v3272 : BitVec 32), BitVec 32) → sProp 𝕄) :
    iprop(recvRes m K agR c 1 20
      ∗ recvRes m K agR c 1 21
      ∗ recvRes m K agR c 1 22
      ∗ levAts L lv
      ∗ owes (c : Thread nD τ) (owedAfter c 155) W
      ∗ (∀ r, (gotAgR m c 1 20 ∗ closedAt m K c 1 20 agR ∗ gotAgR m c 1 21 ∗ closedAt m K c 1 21 agR ∗ gotAgR m c 1 22 ∗ closedAt m K c 1 22 agR ∗ owes (c : Thread nD τ) (owedAfter c 155) (insert (SemLoc.dma (semAt (arr agR) 1 22), ()) (insert (SemLoc.dma (semAt (arr agR) 1 21), ()) (insert (SemLoc.dma (semAt (arr agR) 1 20), ()) (W))))) -∗ Q r))
      ⊢ wp frame (wpE (defs₀ (F := F)) 𝒱₀ c none) Set.univ (k0_part130 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part130_spec m K c v2 W Q

theorem part131_spec' (c : Dev nD) (v2 : BitVec 32) (v3272 : BitVec 32) (c32_i32_4146 : BitVec 32) (W : Waits sig Unit) (Q : (Σ' (v3297 : BitVec 32), BitVec 32) → sProp 𝕄) :
    iprop(recvRes m K agR c 1 23
      ∗ recvRes m K agR c 1 24
      ∗ levAts L lv
      ∗ owes (c : Thread nD τ) (owedAfter c 155) W
      ∗ (∀ r, (gotAgR m c 1 23 ∗ closedAt m K c 1 23 agR ∗ gotAgR m c 1 24 ∗ closedAt m K c 1 24 agR ∗ owes (c : Thread nD τ) (owedAfter c 155) (insert (SemLoc.dma (semAt (arr agR) 1 24), ()) (insert (SemLoc.dma (semAt (arr agR) 1 23), ()) (W)))) -∗ Q r))
      ⊢ wp frame (wpE (defs₀ (F := F)) 𝒱₀ c none) Set.univ (k0_part131 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3272 c32_i32_4146) Q :=
  part131_spec m K c v2 v3272 c32_i32_4146 W Q

theorem part132_spec' (c : Dev nD) (v2 : BitVec 32) (v3297 : BitVec 32) (c0_i32_4179 : BitVec 32) (W : Waits sig Unit) (Q : (BitVec 32) → sProp 𝕄) :
    iprop(recvRes m K agR c 1 25
      ∗ recvRes m K agR c 1 26
      ∗ recvRes m K agR c 1 27
      ∗ levAts L lv
      ∗ owes (c : Thread nD τ) (owedAfter c 155) W
      ∗ (∀ r, (gotAgR m c 1 25 ∗ closedAt m K c 1 25 agR ∗ gotAgR m c 1 26 ∗ closedAt m K c 1 26 agR ∗ gotAgR m c 1 27 ∗ closedAt m K c 1 27 agR ∗ owes (c : Thread nD τ) (owedAfter c 155) (insert (SemLoc.dma (semAt (arr agR) 1 27), ()) (insert (SemLoc.dma (semAt (arr agR) 1 26), ()) (insert (SemLoc.dma (semAt (arr agR) 1 25), ()) (W))))) -∗ Q r))
      ⊢ wp frame (wpE (defs₀ (F := F)) 𝒱₀ c none) Set.univ (k0_part132 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3297 c0_i32_4179) Q :=
  part132_spec m K c v2 v3297 c0_i32_4179 W Q

theorem part133_spec' (c : Dev nD) (v2 : BitVec 32) (v3325 : BitVec 32) (W : Waits sig Unit) (Q : (BitVec 32) → sProp 𝕄) :
    iprop(recvRes m K agR c 1 28
      ∗ recvRes m K agR c 1 29
      ∗ levAts L lv
      ∗ owes (c : Thread nD τ) (owedAfter c 155) W
      ∗ (∀ r, (gotAgR m c 1 28 ∗ closedAt m K c 1 28 agR ∗ gotAgR m c 1 29 ∗ closedAt m K c 1 29 agR ∗ owes (c : Thread nD τ) (owedAfter c 155) (insert (SemLoc.dma (semAt (arr agR) 1 29), ()) (insert (SemLoc.dma (semAt (arr agR) 1 28), ()) (W)))) -∗ Q r))
      ⊢ wp frame (wpE (defs₀ (F := F)) 𝒱₀ c none) Set.univ (k0_part133 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3325) Q :=
  part133_spec m K c v2 v3325 W Q

theorem part135_spec' (c : Dev nD) (W : Waits sig Unit) (Q : (PUnit) → sProp 𝕄) :
    iprop(recvRes m K agS c 0 2
      ∗ recvRes m K agS c 0 3
      ∗ recvRes m K agS c 0 4
      ∗ recvRes m K agS c 0 5
      ∗ recvRes m K agS c 0 6
      ∗ levAts L lv
      ∗ owes (c : Thread nD τ) (owedAfter c 155) W
      ∗ (∀ r, (outShareAt m c 0 2 ∗ closedAt m K c 0 2 agS ∗ outShareAt m c 0 3 ∗ closedAt m K c 0 3 agS ∗ outShareAt m c 0 4 ∗ closedAt m K c 0 4 agS ∗ outShareAt m c 0 5 ∗ closedAt m K c 0 5 agS ∗ outShareAt m c 0 6 ∗ closedAt m K c 0 6 agS ∗ owes (c : Thread nD τ) (owedAfter c 155) (insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) (W))))))) -∗ Q r))
      ⊢ wp frame (wpE (defs₀ (F := F)) 𝒱₀ c none) Set.univ (k0_part135 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part135_spec m K c W Q

theorem part136_spec' (c : Dev nD) (W : Waits sig Unit) (Q : (PUnit) → sProp 𝕄) :
    iprop(recvRes m K agS c 0 7
      ∗ recvRes m K agS c 0 8
      ∗ recvRes m K agS c 0 9
      ∗ recvRes m K agS c 0 10
      ∗ recvRes m K agS c 0 11
      ∗ levAts L lv
      ∗ owes (c : Thread nD τ) (owedAfter c 155) W
      ∗ (∀ r, (outShareAt m c 0 7 ∗ closedAt m K c 0 7 agS ∗ outShareAt m c 0 8 ∗ closedAt m K c 0 8 agS ∗ outShareAt m c 0 9 ∗ closedAt m K c 0 9 agS ∗ outShareAt m c 0 10 ∗ closedAt m K c 0 10 agS ∗ outShareAt m c 0 11 ∗ closedAt m K c 0 11 agS ∗ owes (c : Thread nD τ) (owedAfter c 155) (insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) (W))))))) -∗ Q r))
      ⊢ wp frame (wpE (defs₀ (F := F)) 𝒱₀ c none) Set.univ (k0_part136 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part136_spec m K c W Q

theorem part137_spec' (c : Dev nD) (W : Waits sig Unit) (Q : (PUnit) → sProp 𝕄) :
    iprop(recvRes m K agS c 0 12
      ∗ recvRes m K agS c 0 13
      ∗ recvRes m K agS c 0 14
      ∗ recvRes m K agS c 0 15
      ∗ recvRes m K agS c 0 16
      ∗ levAts L lv
      ∗ owes (c : Thread nD τ) (owedAfter c 155) W
      ∗ (∀ r, (outShareAt m c 0 12 ∗ closedAt m K c 0 12 agS ∗ outShareAt m c 0 13 ∗ closedAt m K c 0 13 agS ∗ outShareAt m c 0 14 ∗ closedAt m K c 0 14 agS ∗ outShareAt m c 0 15 ∗ closedAt m K c 0 15 agS ∗ outShareAt m c 0 16 ∗ closedAt m K c 0 16 agS ∗ owes (c : Thread nD τ) (owedAfter c 155) (insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) (W))))))) -∗ Q r))
      ⊢ wp frame (wpE (defs₀ (F := F)) 𝒱₀ c none) Set.univ (k0_part137 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part137_spec m K c W Q

theorem part138_spec' (c : Dev nD) (W : Waits sig Unit) (Q : (PUnit) → sProp 𝕄) :
    iprop(recvRes m K agS c 0 17
      ∗ recvRes m K agS c 0 18
      ∗ recvRes m K agS c 0 19
      ∗ recvRes m K agS c 0 20
      ∗ recvRes m K agS c 0 21
      ∗ levAts L lv
      ∗ owes (c : Thread nD τ) (owedAfter c 155) W
      ∗ (∀ r, (outShareAt m c 0 17 ∗ closedAt m K c 0 17 agS ∗ outShareAt m c 0 18 ∗ closedAt m K c 0 18 agS ∗ outShareAt m c 0 19 ∗ closedAt m K c 0 19 agS ∗ outShareAt m c 0 20 ∗ closedAt m K c 0 20 agS ∗ outShareAt m c 0 21 ∗ closedAt m K c 0 21 agS ∗ owes (c : Thread nD τ) (owedAfter c 155) (insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) (W))))))) -∗ Q r))
      ⊢ wp frame (wpE (defs₀ (F := F)) 𝒱₀ c none) Set.univ (k0_part138 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part138_spec m K c W Q

theorem part139_spec' (c : Dev nD) (W : Waits sig Unit) (Q : (PUnit) → sProp 𝕄) :
    iprop(recvRes m K agS c 0 22
      ∗ recvRes m K agS c 0 23
      ∗ recvRes m K agS c 0 24
      ∗ recvRes m K agS c 0 25
      ∗ recvRes m K agS c 0 26
      ∗ levAts L lv
      ∗ owes (c : Thread nD τ) (owedAfter c 155) W
      ∗ (∀ r, (outShareAt m c 0 22 ∗ closedAt m K c 0 22 agS ∗ outShareAt m c 0 23 ∗ closedAt m K c 0 23 agS ∗ outShareAt m c 0 24 ∗ closedAt m K c 0 24 agS ∗ outShareAt m c 0 25 ∗ closedAt m K c 0 25 agS ∗ outShareAt m c 0 26 ∗ closedAt m K c 0 26 agS ∗ owes (c : Thread nD τ) (owedAfter c 155) (insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) (W))))))) -∗ Q r))
      ⊢ wp frame (wpE (defs₀ (F := F)) 𝒱₀ c none) Set.univ (k0_part139 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part139_spec m K c W Q

theorem part140_spec' (c : Dev nD) (W : Waits sig Unit) (Q : (PUnit) → sProp 𝕄) :
    iprop(recvRes m K agS c 0 27
      ∗ recvRes m K agS c 0 28
      ∗ recvRes m K agS c 0 29
      ∗ recvRes m K agS c 0 30
      ∗ recvRes m K agS c 0 31
      ∗ levAts L lv
      ∗ owes (c : Thread nD τ) (owedAfter c 155) W
      ∗ (∀ r, (outShareAt m c 0 27 ∗ closedAt m K c 0 27 agS ∗ outShareAt m c 0 28 ∗ closedAt m K c 0 28 agS ∗ outShareAt m c 0 29 ∗ closedAt m K c 0 29 agS ∗ outShareAt m c 0 30 ∗ closedAt m K c 0 30 agS ∗ outShareAt m c 0 31 ∗ closedAt m K c 0 31 agS ∗ owes (c : Thread nD τ) (owedAfter c 155) (insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) (W))))))) -∗ Q r))
      ⊢ wp frame (wpE (defs₀ (F := F)) 𝒱₀ c none) Set.univ (k0_part140 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part140_spec m K c W Q

theorem part141_spec' (c : Dev nD) (W : Waits sig Unit) (Q : (PUnit) → sProp 𝕄) :
    iprop(recvRes m K agS c 1 1
      ∗ recvRes m K agS c 1 2
      ∗ recvRes m K agS c 1 3
      ∗ recvRes m K agS c 1 4
      ∗ recvRes m K agS c 1 5
      ∗ levAts L lv
      ∗ owes (c : Thread nD τ) (owedAfter c 155) W
      ∗ (∀ r, (outShareAt m c 1 1 ∗ closedAt m K c 1 1 agS ∗ outShareAt m c 1 2 ∗ closedAt m K c 1 2 agS ∗ outShareAt m c 1 3 ∗ closedAt m K c 1 3 agS ∗ outShareAt m c 1 4 ∗ closedAt m K c 1 4 agS ∗ outShareAt m c 1 5 ∗ closedAt m K c 1 5 agS ∗ owes (c : Thread nD τ) (owedAfter c 155) (insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) (W))))))) -∗ Q r))
      ⊢ wp frame (wpE (defs₀ (F := F)) 𝒱₀ c none) Set.univ (k0_part141 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part141_spec m K c W Q

theorem part142_spec' (c : Dev nD) (W : Waits sig Unit) (Q : (PUnit) → sProp 𝕄) :
    iprop(recvRes m K agS c 1 6
      ∗ recvRes m K agS c 1 7
      ∗ recvRes m K agS c 1 8
      ∗ recvRes m K agS c 1 9
      ∗ recvRes m K agS c 1 10
      ∗ levAts L lv
      ∗ owes (c : Thread nD τ) (owedAfter c 155) W
      ∗ (∀ r, (outShareAt m c 1 6 ∗ closedAt m K c 1 6 agS ∗ outShareAt m c 1 7 ∗ closedAt m K c 1 7 agS ∗ outShareAt m c 1 8 ∗ closedAt m K c 1 8 agS ∗ outShareAt m c 1 9 ∗ closedAt m K c 1 9 agS ∗ outShareAt m c 1 10 ∗ closedAt m K c 1 10 agS ∗ owes (c : Thread nD τ) (owedAfter c 155) (insert (SemLoc.dma (semAt (arr agS) 1 10), ()) (insert (SemLoc.dma (semAt (arr agS) 1 9), ()) (insert (SemLoc.dma (semAt (arr agS) 1 8), ()) (insert (SemLoc.dma (semAt (arr agS) 1 7), ()) (insert (SemLoc.dma (semAt (arr agS) 1 6), ()) (W))))))) -∗ Q r))
      ⊢ wp frame (wpE (defs₀ (F := F)) 𝒱₀ c none) Set.univ (k0_part142 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part142_spec m K c W Q

theorem part143_spec' (c : Dev nD) (W : Waits sig Unit) (Q : (PUnit) → sProp 𝕄) :
    iprop(recvRes m K agS c 1 11
      ∗ recvRes m K agS c 1 12
      ∗ recvRes m K agS c 1 13
      ∗ recvRes m K agS c 1 14
      ∗ recvRes m K agS c 1 15
      ∗ levAts L lv
      ∗ owes (c : Thread nD τ) (owedAfter c 155) W
      ∗ (∀ r, (outShareAt m c 1 11 ∗ closedAt m K c 1 11 agS ∗ outShareAt m c 1 12 ∗ closedAt m K c 1 12 agS ∗ outShareAt m c 1 13 ∗ closedAt m K c 1 13 agS ∗ outShareAt m c 1 14 ∗ closedAt m K c 1 14 agS ∗ outShareAt m c 1 15 ∗ closedAt m K c 1 15 agS ∗ owes (c : Thread nD τ) (owedAfter c 155) (insert (SemLoc.dma (semAt (arr agS) 1 15), ()) (insert (SemLoc.dma (semAt (arr agS) 1 14), ()) (insert (SemLoc.dma (semAt (arr agS) 1 13), ()) (insert (SemLoc.dma (semAt (arr agS) 1 12), ()) (insert (SemLoc.dma (semAt (arr agS) 1 11), ()) (W))))))) -∗ Q r))
      ⊢ wp frame (wpE (defs₀ (F := F)) 𝒱₀ c none) Set.univ (k0_part143 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part143_spec m K c W Q

theorem part144_spec' (c : Dev nD) (W : Waits sig Unit) (Q : (PUnit) → sProp 𝕄) :
    iprop(recvRes m K agS c 1 16
      ∗ recvRes m K agS c 1 17
      ∗ recvRes m K agS c 1 18
      ∗ recvRes m K agS c 1 19
      ∗ recvRes m K agS c 1 20
      ∗ levAts L lv
      ∗ owes (c : Thread nD τ) (owedAfter c 155) W
      ∗ (∀ r, (outShareAt m c 1 16 ∗ closedAt m K c 1 16 agS ∗ outShareAt m c 1 17 ∗ closedAt m K c 1 17 agS ∗ outShareAt m c 1 18 ∗ closedAt m K c 1 18 agS ∗ outShareAt m c 1 19 ∗ closedAt m K c 1 19 agS ∗ outShareAt m c 1 20 ∗ closedAt m K c 1 20 agS ∗ owes (c : Thread nD τ) (owedAfter c 155) (insert (SemLoc.dma (semAt (arr agS) 1 20), ()) (insert (SemLoc.dma (semAt (arr agS) 1 19), ()) (insert (SemLoc.dma (semAt (arr agS) 1 18), ()) (insert (SemLoc.dma (semAt (arr agS) 1 17), ()) (insert (SemLoc.dma (semAt (arr agS) 1 16), ()) (W))))))) -∗ Q r))
      ⊢ wp frame (wpE (defs₀ (F := F)) 𝒱₀ c none) Set.univ (k0_part144 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part144_spec m K c W Q

theorem part145_spec' (c : Dev nD) (W : Waits sig Unit) (Q : (PUnit) → sProp 𝕄) :
    iprop(recvRes m K agS c 1 21
      ∗ recvRes m K agS c 1 22
      ∗ recvRes m K agS c 1 23
      ∗ recvRes m K agS c 1 24
      ∗ recvRes m K agS c 1 25
      ∗ levAts L lv
      ∗ owes (c : Thread nD τ) (owedAfter c 155) W
      ∗ (∀ r, (outShareAt m c 1 21 ∗ closedAt m K c 1 21 agS ∗ outShareAt m c 1 22 ∗ closedAt m K c 1 22 agS ∗ outShareAt m c 1 23 ∗ closedAt m K c 1 23 agS ∗ outShareAt m c 1 24 ∗ closedAt m K c 1 24 agS ∗ outShareAt m c 1 25 ∗ closedAt m K c 1 25 agS ∗ owes (c : Thread nD τ) (owedAfter c 155) (insert (SemLoc.dma (semAt (arr agS) 1 25), ()) (insert (SemLoc.dma (semAt (arr agS) 1 24), ()) (insert (SemLoc.dma (semAt (arr agS) 1 23), ()) (insert (SemLoc.dma (semAt (arr agS) 1 22), ()) (insert (SemLoc.dma (semAt (arr agS) 1 21), ()) (W))))))) -∗ Q r))
      ⊢ wp frame (wpE (defs₀ (F := F)) 𝒱₀ c none) Set.univ (k0_part145 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part145_spec m K c W Q

theorem part146_spec' (c : Dev nD) (W : Waits sig Unit) (Q : (PUnit) → sProp 𝕄) :
    iprop(recvRes m K agS c 1 26
      ∗ recvRes m K agS c 1 27
      ∗ recvRes m K agS c 1 28
      ∗ recvRes m K agS c 1 29
      ∗ recvRes m K agS c 1 30
      ∗ levAts L lv
      ∗ owes (c : Thread nD τ) (owedAfter c 155) W
      ∗ (∀ r, (outShareAt m c 1 26 ∗ closedAt m K c 1 26 agS ∗ outShareAt m c 1 27 ∗ closedAt m K c 1 27 agS ∗ outShareAt m c 1 28 ∗ closedAt m K c 1 28 agS ∗ outShareAt m c 1 29 ∗ closedAt m K c 1 29 agS ∗ outShareAt m c 1 30 ∗ closedAt m K c 1 30 agS ∗ owes (c : Thread nD τ) (owedAfter c 155) (insert (SemLoc.dma (semAt (arr agS) 1 30), ()) (insert (SemLoc.dma (semAt (arr agS) 1 29), ()) (insert (SemLoc.dma (semAt (arr agS) 1 28), ()) (insert (SemLoc.dma (semAt (arr agS) 1 27), ()) (insert (SemLoc.dma (semAt (arr agS) 1 26), ()) (W))))))) -∗ Q r))
      ⊢ wp frame (wpE (defs₀ (F := F)) 𝒱₀ c none) Set.univ (k0_part146 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part146_spec m K c W Q

end Cert.KernelIdeal.AllReduce

end
-- ==== Proof.RegionSplit.lean ====
/-
  The three scratch buffers of a device, cut into the pieces the protocol hands around: the receive buffer into its
  64 slots (half, slot), the partial product and the gather buffer each into their 64 chunks (half, row chunk).  The
  pieces of one buffer are pairwise disjoint rectangles that cover it, so the buffer held whole is its pieces held
  side by side, and pieces held at different contents join into the buffer held whole at some contents.
-/
import proofs.«900438_g7700000000000439_dist_gemm_ar_m1024_k1024_n1024_f32_gelu_v7x_i32_1_alg».proof.Proof.Protocol
import Idealize.ShloMosaic.Rules.PointsTo

noncomputable section

namespace Cert.KernelIdeal.Regions

open Cert.KernelIdeal Cert.KernelIdeal.Gen Cert.KernelIdeal.AllReduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## A buffer held whole is held by the pieces of a partition of its elements -/

section Generic
variable {nD : Nat} {τ : Topo} {sig : RefSig} {Ix : Type} [DecidableEq Ix]
variable {Val : EltTy → Type} {Name : Type} [DecidableEq Name]
variable {U : Type} [URA U] {Lvl : Type}
local notation "𝕄" => MT nD τ sig Ix Val Name U Lvl

theorem univ_eq_biUnion {T : Type} [Fintype T] [DecidableEq T] {α : Type} [Fintype α] [DecidableEq α] (K : T → Finset α)
    (hc : ∀ i, ∃ t, i ∈ K t) : (Finset.univ : Finset α) = Finset.univ.biUnion K := by
  ext i
  simp only [Finset.mem_univ, Finset.mem_biUnion, true_and, true_iff]
  exact hc i

/-- Held whole at `f`, a buffer is held piece by piece at `f`. -/
theorem pointsTo_univ_eq_bigSep {T : Type} [Fintype T] [DecidableEq T] {ℓ : Loc nD τ sig} (K : T → Finset (Idx ℓ))
    (hd : ∀ t t', t ≠ t' → Disjoint (K t) (K t')) (hc : ∀ i, ∃ t, i ∈ K t) (q : PosShare TreeShare) (f : Buf Val ℓ) :
    (ℓ ↦{q} f : sProp 𝕄) = bigSep Finset.univ fun t => ℓ ↦[K t]{q} f := by
  rw [← pointsTo_biUnion Finset.univ K (fun t _ t' _ h => hd t t' h), ← univ_eq_biUnion K hc]

/-- Held piece by piece at contents `fs t`, it is held whole at contents that agree with `fs t` on piece `t`. -/
theorem bigSep_pointsTo_join_univ {T : Type} [Fintype T] [DecidableEq T] {ℓ : Loc nD τ sig} (K : T → Finset (Idx ℓ))
    (hd : ∀ t t', t ≠ t' → Disjoint (K t) (K t')) (hc : ∀ i, ∃ t, i ∈ K t) (q : PosShare TreeShare)
    (fs : T → Buf Val ℓ) (f₀ : Buf Val ℓ) :
    bigSep Finset.univ (fun t => ℓ ↦[K t]{q} fs t)
      ⊢ (iprop(∃ g, ⌜∀ t, ∀ i ∈ K t, g i = fs t i⌝ ∗ ℓ ↦{q} g) : sProp 𝕄) := by
  rw [univ_eq_biUnion K hc]
  refine (pointsTo_biUnion_join Finset.univ K fs f₀ (fun t _ t' _ h => hd t t' h)).trans ?_
  iintro ⟨%g, %hg, H⟩
  iexists g
  isplitr
  · ipureintro; exact fun t i hi => hg t (Finset.mem_univ t) i hi
  · iexact H

end Generic

/-! ## The pieces' element sets -/

theorem slot_set (h : Fin 2) (s : Fin 32) :
    ((slot h s).view.set : Finset S2x32x32x512.Idx)
      = (Rect.unit (s := S2x32x32x512) ![h.val, s.val, 0, 0] S1x1x32x512.size (inb_slot h s)).set :=
  (View.set_reshape _ _).trans (View.set_slice_whole cc0_scratch2 _)

/-- Slot `(h, s)` holds the elements whose first two coordinates are `h` and `s`. -/
theorem mem_slot_set (h : Fin 2) (s : Fin 32) (i : S2x32x32x512.Idx) :
    i ∈ ((slot h s).view.set : Finset S2x32x32x512.Idx) ↔ (i 0).val = h.val ∧ (i 1).val = s.val := by
  refine (Finset.ext_iff.mp (slot_set h s) i).trans (Rect.mem_set_unit.trans ?_)
  constructor
  · intro H
    have h0 : h.val ≤ (i 0).val ∧ (i 0).val < h.val + 1 := H 0
    have h1 : s.val ≤ (i 1).val ∧ (i 1).val < s.val + 1 := H 1
    omega
  · rintro ⟨e0, e1⟩ a
    match a with
    | ⟨0, _⟩ => show h.val ≤ (i 0).val ∧ (i 0).val < h.val + 1; omega
    | ⟨1, _⟩ => show s.val ≤ (i 1).val ∧ (i 1).val < s.val + 1; omega
    | ⟨2, _⟩ => show 0 ≤ (i 2).val ∧ (i 2).val < 0 + 32; have : (i 2).val < 32 := (i 2).isLt; omega
    | ⟨3, _⟩ => show 0 ≤ (i 3).val ∧ (i 3).val < 0 + 512; have : (i 3).val < 512 := (i 3).isLt; omega

theorem chunk_acc_set (d : Dev nD) (h : Fin 2) :
    ((chunk accM d h).view.set : Finset S1024x1024.Idx)
      = (Rect.unit (s := S1024x1024) ![32 * d.val, 512 * h.val] S32x512.size (inb_chunk d h)).set :=
  View.set_slice_whole cc0_scratch0 _

theorem chunk_out_set (d : Dev nD) (h : Fin 2) :
    ((chunk outM d h).view.set : Finset S1024x1024.Idx)
      = (Rect.unit (s := S1024x1024) ![32 * d.val, 512 * h.val] S32x512.size (inb_chunk d h)).set :=
  View.set_slice_whole cc0_scratch1 _

theorem mem_chunk_rect (d : Dev nD) (h : Fin 2) (i : S1024x1024.Idx) :
    i ∈ (Rect.unit (s := S1024x1024) ![32 * d.val, 512 * h.val] S32x512.size (inb_chunk d h)).set
      ↔ (i 0).val / 32 = d.val ∧ (i 1).val / 512 = h.val := by
  refine Rect.mem_set_unit.trans ?_
  constructor
  · intro H
    have h0 : 32 * d.val ≤ (i 0).val ∧ (i 0).val < 32 * d.val + 32 := H 0
    have h1 : 512 * h.val ≤ (i 1).val ∧ (i 1).val < 512 * h.val + 512 := H 1
    omega
  · rintro ⟨e0, e1⟩ a
    match a with
    | ⟨0, _⟩ => show 32 * d.val ≤ (i 0).val ∧ (i 0).val < 32 * d.val + 32; omega
    | ⟨1, _⟩ => show 512 * h.val ≤ (i 1).val ∧ (i 1).val < 512 * h.val + 512; omega

/-- Chunk `(d, h)` of the partial product holds the rows of row chunk `d` and the columns of half `h`. -/
theorem mem_chunk_acc_set (d : Dev nD) (h : Fin 2) (i : S1024x1024.Idx) :
    i ∈ ((chunk accM d h).view.set : Finset S1024x1024.Idx) ↔ (i 0).val / 32 = d.val ∧ (i 1).val / 512 = h.val :=
  (Finset.ext_iff.mp (chunk_acc_set d h) i).trans (mem_chunk_rect d h i)

/-- The gather buffer's chunk `(d, h)` likewise. -/
theorem mem_chunk_out_set (d : Dev nD) (h : Fin 2) (i : S1024x1024.Idx) :
    i ∈ ((chunk outM d h).view.set : Finset S1024x1024.Idx) ↔ (i 0).val / 32 = d.val ∧ (i 1).val / 512 = h.val :=
  (Finset.ext_iff.mp (chunk_out_set d h) i).trans (mem_chunk_rect d h i)

/-! ## The 64 pieces of a buffer -/

/-- The 64 (half, place) pairs, half-major. -/
abbrev pieces : List (Fin 2 × Fin 32) := [(0, 0), (0, 1), (0, 2), (0, 3), (0, 4), (0, 5), (0, 6), (0, 7), (0, 8), (0, 9), (0, 10), (0, 11), (0, 12), (0, 13), (0, 14), (0, 15), (0, 16), (0, 17), (0, 18), (0, 19), (0, 20), (0, 21), (0, 22), (0, 23), (0, 24), (0, 25), (0, 26), (0, 27), (0, 28), (0, 29), (0, 30), (0, 31), (1, 0), (1, 1), (1, 2), (1, 3), (1, 4), (1, 5), (1, 6), (1, 7), (1, 8), (1, 9), (1, 10), (1, 11), (1, 12), (1, 13), (1, 14), (1, 15), (1, 16), (1, 17), (1, 18), (1, 19), (1, 20), (1, 21), (1, 22), (1, 23), (1, 24), (1, 25), (1, 26), (1, 27), (1, 28), (1, 29), (1, 30), (1, 31)]

theorem pieces_univ : (Finset.univ : Finset (Fin 2 × Fin 32)) = pieces.toFinset := by decide +kernel
theorem pieces_nodup : pieces.Nodup := by decide +kernel

theorem slot_disjoint (p p' : Fin 2 × Fin 32) (hne : p ≠ p') :
    Disjoint ((slot p.1 p.2).view.set : Finset S2x32x32x512.Idx) (slot p'.1 p'.2).view.set :=
  Finset.disjoint_left.mpr fun i hi hi' => hne (by
    have a := (mem_slot_set _ _ i).mp hi; have b := (mem_slot_set _ _ i).mp hi'
    exact Prod.ext (Fin.ext (a.1.symm.trans b.1)) (Fin.ext (a.2.symm.trans b.2)))

theorem slot_cover (i : S2x32x32x512.Idx) : ∃ p : Fin 2 × Fin 32, i ∈ ((slot p.1 p.2).view.set : Finset S2x32x32x512.Idx) :=
  ⟨(⟨(i 0).val, (i 0).isLt⟩, ⟨(i 1).val, (i 1).isLt⟩), (mem_slot_set _ _ i).mpr ⟨rfl, rfl⟩⟩

theorem chunk_acc_disjoint (p p' : Fin 2 × Fin 32) (hne : p ≠ p') :
    Disjoint ((chunk accM p.2 p.1).view.set : Finset S1024x1024.Idx) (chunk accM p'.2 p'.1).view.set :=
  Finset.disjoint_left.mpr fun i hi hi' => hne (by
    have a := (mem_chunk_acc_set _ _ i).mp hi; have b := (mem_chunk_acc_set _ _ i).mp hi'
    exact Prod.ext (Fin.ext (a.2.symm.trans b.2)) (Fin.ext (a.1.symm.trans b.1)))

theorem chunk_acc_cover (i : S1024x1024.Idx) : ∃ p : Fin 2 × Fin 32, i ∈ ((chunk accM p.2 p.1).view.set : Finset S1024x1024.Idx) :=
  ⟨(⟨(i 1).val / 512, by have : (i 1).val < 1024 := (i 1).isLt; omega⟩, ⟨(i 0).val / 32, by have : (i 0).val < 1024 := (i 0).isLt; omega⟩),
    (mem_chunk_acc_set _ _ i).mpr ⟨rfl, rfl⟩⟩

theorem chunk_out_disjoint (p p' : Fin 2 × Fin 32) (hne : p ≠ p') :
    Disjoint ((chunk outM p.2 p.1).view.set : Finset S1024x1024.Idx) (chunk outM p'.2 p'.1).view.set :=
  Finset.disjoint_left.mpr fun i hi hi' => hne (by
    have a := (mem_chunk_out_set _ _ i).mp hi; have b := (mem_chunk_out_set _ _ i).mp hi'
    exact Prod.ext (Fin.ext (a.2.symm.trans b.2)) (Fin.ext (a.1.symm.trans b.1)))

theorem chunk_out_cover (i : S1024x1024.Idx) : ∃ p : Fin 2 × Fin 32, i ∈ ((chunk outM p.2 p.1).view.set : Finset S1024x1024.Idx) :=
  ⟨(⟨(i 1).val / 512, by have : (i 1).val < 1024 := (i 1).isLt; omega⟩, ⟨(i 0).val / 32, by have : (i 0).val < 1024 := (i 0).isLt; omega⟩),
    (mem_chunk_out_set _ _ i).mpr ⟨rfl, rfl⟩⟩

/-! ## Whole buffers and their pieces -/

section Pieces
variable {Ix : Type} [DecidableEq Ix] {Val : EltTy → Type} {Name : Type} [DecidableEq Name] {U : Type} [URA U] {Lvl : Type}
local notation "𝕄" => MT nD τ sig Ix Val Name U Lvl

/-- The receive buffer held whole is its 64 slots held, `(0,0) … (0,31), (1,0) … (1,31)`. -/
theorem buf_eq_slots (c : Dev nD) (q : PosShare TreeShare) (f : Buf Val ((c : Thread nD τ).loc cc0_scratch2)) :
    ((c : Thread nD τ).loc cc0_scratch2 ↦{q} f : sProp 𝕄)
      = bigSepL pieces fun p => (slot p.1 p.2).view.loc (c : Thread nD τ) ↦[(slot p.1 p.2).view.set]{q} f := by
  rw [← bigSep_univ_eq_bigSepL pieces pieces_univ pieces_nodup]
  exact pointsTo_univ_eq_bigSep (ℓ := (c : Thread nD τ).loc cc0_scratch2) (T := Fin 2 × Fin 32)
    (fun p => ((slot p.1 p.2).view.set : Finset S2x32x32x512.Idx)) slot_disjoint slot_cover q f

/-- The partial product held whole is its 64 chunks held: piece `(h, d)` is `chunk accM d h`. -/
theorem acc_eq_chunks (c : Dev nD) (q : PosShare TreeShare) (f : Buf Val ((c : Thread nD τ).loc cc0_scratch0)) :
    ((c : Thread nD τ).loc cc0_scratch0 ↦{q} f : sProp 𝕄)
      = bigSepL pieces fun p => (chunk accM p.2 p.1).view.loc (c : Thread nD τ) ↦[(chunk accM p.2 p.1).view.set]{q} f := by
  rw [← bigSep_univ_eq_bigSepL pieces pieces_univ pieces_nodup]
  exact pointsTo_univ_eq_bigSep (ℓ := (c : Thread nD τ).loc cc0_scratch0) (T := Fin 2 × Fin 32)
    (fun p => ((chunk accM p.2 p.1).view.set : Finset S1024x1024.Idx)) chunk_acc_disjoint chunk_acc_cover q f

/-- The gather buffer held whole is its 64 chunks held: piece `(h, d)` is `chunk outM d h`. -/
theorem out_eq_chunks (c : Dev nD) (q : PosShare TreeShare) (f : Buf Val ((c : Thread nD τ).loc cc0_scratch1)) :
    ((c : Thread nD τ).loc cc0_scratch1 ↦{q} f : sProp 𝕄)
      = bigSepL pieces fun p => (chunk outM p.2 p.1).view.loc (c : Thread nD τ) ↦[(chunk outM p.2 p.1).view.set]{q} f := by
  rw [← bigSep_univ_eq_bigSepL pieces pieces_univ pieces_nodup]
  exact pointsTo_univ_eq_bigSep (ℓ := (c : Thread nD τ).loc cc0_scratch1) (T := Fin 2 × Fin 32)
    (fun p => ((chunk outM p.2 p.1).view.set : Finset S1024x1024.Idx)) chunk_out_disjoint chunk_out_cover q f

/-- The 64 slots held at contents of their own make the receive buffer held whole at some contents. -/
theorem slots_join (c : Dev nD) (q : PosShare TreeShare) (fs : Fin 2 × Fin 32 → Buf Val ((c : Thread nD τ).loc cc0_scratch2)) :
    bigSepL pieces (fun p => (slot p.1 p.2).view.loc (c : Thread nD τ) ↦[(slot p.1 p.2).view.set]{q} fs p)
      ⊢ (iprop(∃ g, (c : Thread nD τ).loc cc0_scratch2 ↦{q} g) : sProp 𝕄) := by
  rw [← bigSep_univ_eq_bigSepL pieces pieces_univ pieces_nodup]
  refine (bigSep_pointsTo_join_univ (ℓ := (c : Thread nD τ).loc cc0_scratch2) (T := Fin 2 × Fin 32)
    (fun p => ((slot p.1 p.2).view.set : Finset S2x32x32x512.Idx)) slot_disjoint slot_cover q fs (fs (0, 0))).trans ?_
  iintro ⟨%g, -, H⟩
  iexists g
  iexact H

/-- The 64 chunks of the partial product likewise. -/
theorem acc_chunks_join (c : Dev nD) (q : PosShare TreeShare) (fs : Fin 2 × Fin 32 → Buf Val ((c : Thread nD τ).loc cc0_scratch0)) :
    bigSepL pieces (fun p => (chunk accM p.2 p.1).view.loc (c : Thread nD τ) ↦[(chunk accM p.2 p.1).view.set]{q} fs p)
      ⊢ (iprop(∃ g, (c : Thread nD τ).loc cc0_scratch0 ↦{q} g) : sProp 𝕄) := by
  rw [← bigSep_univ_eq_bigSepL pieces pieces_univ pieces_nodup]
  refine (bigSep_pointsTo_join_univ (ℓ := (c : Thread nD τ).loc cc0_scratch0) (T := Fin 2 × Fin 32)
    (fun p => ((chunk accM p.2 p.1).view.set : Finset S1024x1024.Idx)) chunk_acc_disjoint chunk_acc_cover q fs (fs (0, 0))).trans ?_
  iintro ⟨%g, -, H⟩
  iexists g
  iexact H

/-- The 64 chunks of the gather buffer likewise. -/
theorem out_chunks_join (c : Dev nD) (q : PosShare TreeShare) (fs : Fin 2 × Fin 32 → Buf Val ((c : Thread nD τ).loc cc0_scratch1)) :
    bigSepL pieces (fun p => (chunk outM p.2 p.1).view.loc (c : Thread nD τ) ↦[(chunk outM p.2 p.1).view.set]{q} fs p)
      ⊢ (iprop(∃ g, (c : Thread nD τ).loc cc0_scratch1 ↦{q} g) : sProp 𝕄) := by
  rw [← bigSep_univ_eq_bigSepL pieces pieces_univ pieces_nodup]
  refine (bigSep_pointsTo_join_univ (ℓ := (c : Thread nD τ).loc cc0_scratch1) (T := Fin 2 × Fin 32)
    (fun p => ((chunk outM p.2 p.1).view.set : Finset S1024x1024.Idx)) chunk_out_disjoint chunk_out_cover q fs (fs (0, 0))).trans ?_
  iintro ⟨%g, -, H⟩
  iexists g
  iexact H

end Pieces

/-- info: 'Cert.KernelIdeal.Regions.buf_eq_slots' depends on axioms: [propext, Classical.choice, Quot.sound] -/
#guard_msgs in #print axioms buf_eq_slots

/-- info: 'Cert.KernelIdeal.Regions.slots_join' depends on axioms: [propext, Classical.choice, Quot.sound] -/
#guard_msgs in #print axioms slots_join

end Cert.KernelIdeal.Regions

end
-- ==== Proof.OwnPieces.lean ====
/-
  One piece of a scratch buffer at a time: the loads and stores the body makes at the rectangle of a slot of the
  receive buffer, or of a row chunk of the partial product or of the gather buffer, while the device holds that piece
  alone; and what the piece holds afterwards, named by the block stored.
-/
import proofs.«900438_g7700000000000439_dist_gemm_ar_m1024_k1024_n1024_f32_gelu_v7x_i32_1_alg».proof.Proof.RegionSplit
import Idealize.ShloMosaic.Lib.Exec.Geometry
import Idealize.ShloMosaic.Lib.Exec.Context
import Idealize.ShloMosaic.Lib.Pipeline.Value

noncomputable section

namespace Cert.KernelIdeal.Regions

open Cert.KernelIdeal Cert.KernelIdeal.Gen Cert.KernelIdeal.AllReduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix4)

/-! ## The own slot: the 1 x 1 x 32 x 512 rectangle at (h, s, 0, 0) of the receive buffer is slot (h, s) -/

theorem access_slot_set (h : Fin 2) (s : Fin 32) {off : Fin 4 → Nat} (hoff : off = ![h.val, s.val, 0, 0])
    (inb : ∀ a, off a + S1x1x32x512.size a ≤ S2x32x32x512.size a) :
    ((bufM.access (Rect.unit (s := S2x32x32x512) off S1x1x32x512.size inb)).set : Finset S2x32x32x512.Idx)
      = (slot h s).view.set := by
  subst hoff
  exact (View.set_slice_whole cc0_scratch2 _).trans (slot_set h s).symm

/-! ## Row chunk (d, h) of the partial product: the 32 x 512 rectangle at (32 d, 512 h) -/

theorem access_chunk_acc_set (d : Dev nD) (h : Fin 2) {off : Fin 2 → Nat} (hoff : off = ![32 * d.val, 512 * h.val])
    (inb : ∀ a, off a + S32x512.size a ≤ S1024x1024.size a) :
    ((accM.access (Rect.unit (s := S1024x1024) off S32x512.size inb)).set : Finset S1024x1024.Idx)
      = (chunk accM d h).view.set := by
  subst hoff
  exact (View.set_slice_whole cc0_scratch0 _).trans (chunk_acc_set d h).symm

/-- A block written through the rectangle is read back through the chunk. -/
theorem read_chunk_acc_write {Val : EltTy → Type} (d : Dev nD) (h : Fin 2) {off : Fin 2 → Nat} (hoff : off = ![32 * d.val, 512 * h.val])
    (inb : ∀ a, off a + S32x512.size a ≤ S1024x1024.size a)
    (f : (accM.access (Rect.unit (s := S1024x1024) off S32x512.size inb)).ty.Contents Val) (w : S32x512.Idx → Val .bf16) :
    (chunk accM d h).view.read Val ((accM.access (Rect.unit (s := S1024x1024) off S32x512.size inb)).write Val f w Finset.univ) = w := by
  subst hoff
  exact View.read_write_univ (v := accM.access (Rect.unit (s := S1024x1024) ![32 * d.val, 512 * h.val] S32x512.size inb)) f w

/-! ## Row chunk (d, h) of the gather buffer: the 32 x 512 rectangle at (32 d, 512 h) -/

theorem access_chunk_out_set (d : Dev nD) (h : Fin 2) {off : Fin 2 → Nat} (hoff : off = ![32 * d.val, 512 * h.val])
    (inb : ∀ a, off a + S32x512.size a ≤ S1024x1024.size a) :
    ((outM.access (Rect.unit (s := S1024x1024) off S32x512.size inb)).set : Finset S1024x1024.Idx)
      = (chunk outM d h).view.set := by
  subst hoff
  exact (View.set_slice_whole cc0_scratch1 _).trans (chunk_out_set d h).symm

/-- A block written through the rectangle is read back through the chunk. -/
theorem read_chunk_out_write {Val : EltTy → Type} (d : Dev nD) (h : Fin 2) {off : Fin 2 → Nat} (hoff : off = ![32 * d.val, 512 * h.val])
    (inb : ∀ a, off a + S32x512.size a ≤ S1024x1024.size a)
    (f : (outM.access (Rect.unit (s := S1024x1024) off S32x512.size inb)).ty.Contents Val) (w : S32x512.Idx → Val .bf16) :
    (chunk outM d h).view.read Val ((outM.access (Rect.unit (s := S1024x1024) off S32x512.size inb)).write Val f w Finset.univ) = w := by
  subst hoff
  exact View.read_write_univ (v := outM.access (Rect.unit (s := S1024x1024) ![32 * d.val, 512 * h.val] S32x512.size inb)) f w

section Values
variable {Val : EltTy → Type} [∀ e, Nonempty (Val e)]

/-- A 32 x 512 block written through the rectangle as a 1 x 1 x 32 x 512 vector is read back through the slot as the block. -/
theorem read_slot_write (h : Fin 2) (s : Fin 32) {off : Fin 4 → Nat} (hoff : off = ![h.val, s.val, 0, 0])
    (inb : ∀ a, off a + S1x1x32x512.size a ≤ S2x32x32x512.size a)
    (f : (bufM.access (Rect.unit (s := S2x32x32x512) off S1x1x32x512.size inb)).ty.Contents Val)
    (v : S32x512.Idx → Val .bf16) (hsc : S32x512.ShapeCasts S1x1x32x512) :
    (slot h s).view.read Val ((bufM.access (Rect.unit (s := S2x32x32x512) off S1x1x32x512.size inb)).write Val f
        (shapeCast S1x1x32x512 v hsc) Finset.univ) = v := by
  subst hoff
  funext y
  have hw := View.write_emb_of_mem (v := bufM.access (Rect.unit (s := S2x32x32x512) ![h.val, s.val, 0, 0] S1x1x32x512.size inb))
    (Val := Val) f (shapeCast S1x1x32x512 v hsc) (M := Finset.univ)
    (x := Shape.reshapeEquiv squeezes_S1x1x32x512_S32x512.numel_eq y) (Finset.mem_univ _)
  show _root_.cast _ (View.write Val (bufM.access (Rect.unit (s := S2x32x32x512) ![h.val, s.val, 0, 0] S1x1x32x512.size inb)) f
      (shapeCast S1x1x32x512 v hsc) Finset.univ
      ((bufM.access (Rect.unit (s := S2x32x32x512) ![h.val, s.val, 0, 0] S1x1x32x512.size inb)).emb
        (Shape.reshapeEquiv squeezes_S1x1x32x512_S32x512.numel_eq y))) = v y
  rw [hw]
  refine (cast_eq _ _).trans ((cast_eq _ _).trans ?_)
  show v (Shape.reshapeEquiv _ (Shape.reshapeEquiv _ y)) = v y
  rw [Shape.reshapeEquiv_reshapeEquiv, Shape.reshapeEquiv_self]

end Values

section Steps
variable {Ix : Type} [DecidableEq Ix] {Val : EltTy → Type} {Name : Type} [DecidableEq Name] {U : Type} [URA U]
variable {Lvl : Type} [Preorder Lvl] {Λ : Labels}
variable {defs : Defs nD τ sig Val Λ} (𝒱 : Variants) (c : Dev nD) (bd : Option 𝒱.V) {Γ : PendingWaitsCtx sig Ix} (E : Set Name)
variable {α : Type} {Q : α → sProp (MT nD τ sig Ix Val Name U Lvl)}
local notation "𝕄" => MT nD τ sig Ix Val Name U Lvl

/-- A load of the 1 x 1 x 32 x 512 rectangle at (h, s, 0, 0), holding slot (h, s) at any share. -/
theorem wp_load_slot (h : Fin 2) (s : Fin 32) {off : Fin 4 → Nat} (hoff : off = ![h.val, s.val, 0, 0])
    {inb : ∀ a, off a + S1x1x32x512.size a ≤ S2x32x32x512.size a}
    {hl : bufM.view.LoadsAt (Rect.unit (s := S2x32x32x512) off S1x1x32x512.size inb).toLoadRect}
    {k : ((Rect.unit (s := S2x32x32x512) off S1x1x32x512.size inb).shape.Idx → Val .bf16) → Prog (TpuEff nD τ sig Val Λ .tc) α}
    {q : PosShare TreeShare} {f : Buf Val ((slot h s).view.loc (c : Thread nD τ))} :
    ((slot h s).view.loc (c : Thread nD τ) ↦[(slot h s).view.set]{q} f : sProp 𝕄)
      ⊢ iprop((((slot h s).view.loc (c : Thread nD τ) ↦[(slot h s).view.set]{q} f)
            -∗ wp frame (wpE' defs 𝒱 (c : Thread nD τ) bd Γ) E
                (k ((bufM.access (Rect.unit (s := S2x32x32x512) off S1x1x32x512.size inb)).read Val f)) Q)
          -∗ wp frame (wpE' defs 𝒱 (c : Thread nD τ) bd Γ) E
              (.op (.load bufM (Rect.unit (s := S2x32x32x512) off S1x1x32x512.size inb).toLoadRect hl) k) Q) :=
  wp_load_rect (defs := defs) (Γ := Γ) (Q := Q) 𝒱 (c : Thread nD τ) bd E (m := bufM)
    (r := Rect.unit (s := S2x32x32x512) off S1x1x32x512.size inb) (hl := hl) (k := k) (S := (slot h s).view.set) (q := q) (f := f)
    (subset_of_eq (access_slot_set h s hoff inb))

/-- A store of a 32 x 512 block `v`, seen as 1 x 1 x 32 x 512, into that rectangle, holding slot (h, s) whole: the slot then
    holds `v`. -/
theorem wp_store_slot [∀ e, Nonempty (Val e)] (h : Fin 2) (s : Fin 32) {off : Fin 4 → Nat} (hoff : off = ![h.val, s.val, 0, 0])
    {inb : ∀ a, off a + S1x1x32x512.size a ≤ S2x32x32x512.size a}
    (v : S32x512.Idx → Val .bf16) (hsc : S32x512.ShapeCasts S1x1x32x512)
    {hx : (bufM.access (Rect.unit (s := S2x32x32x512) off S1x1x32x512.size inb)).Stores Finset.univ}
    {hm : (Finset.univ : Finset (Rect.unit (s := S2x32x32x512) off S1x1x32x512.size inb).shape.Idx) = Finset.univ
      ∨ ∀ a, (Rect.unit (s := S2x32x32x512) off S1x1x32x512.size inb).stride a = 1}
    {k : PUnit → Prog (TpuEff nD τ sig Val Λ .tc) α}
    {f : Buf Val ((slot h s).view.loc (c : Thread nD τ))} :
    ((slot h s).view.loc (c : Thread nD τ) ↦[(slot h s).view.set]{fullShare} f : sProp 𝕄)
      ⊢ iprop((((slot h s).view.loc (c : Thread nD τ) ↦[(slot h s).view.set]{fullShare} (slot h s).view.rep v)
            -∗ wp frame (wpE' defs 𝒱 (c : Thread nD τ) bd Γ) E (k ⟨⟩) Q)
          -∗ wp frame (wpE' defs 𝒱 (c : Thread nD τ) bd Γ) E
              (.op (.store bufM (Rect.unit (s := S2x32x32x512) off S1x1x32x512.size inb) (shapeCast S1x1x32x512 v hsc)
                Finset.univ hx hm) k) Q) := by
  have e : ((slot h s).view.loc (c : Thread nD τ) ↦[(slot h s).view.set]{fullShare} (slot h s).view.rep v : sProp 𝕄)
      = ((slot h s).view.loc (c : Thread nD τ) ↦[(slot h s).view.set]{fullShare}
          (bufM.access (Rect.unit (s := S2x32x32x512) off S1x1x32x512.size inb)).write Val f (shapeCast S1x1x32x512 v hsc) Finset.univ) := by
    refine pointsTo_congr fun i hi => ?_
    obtain ⟨y, -, rfl⟩ := Finset.mem_map.mp hi
    refine (View.rep_emb (slot h s).view v y).trans ((cast_eq _ _).trans ?_)
    have hr := congrFun (read_slot_write h s hoff inb f v hsc) y
    exact hr.symm.trans ((View.read_apply _ _).trans (cast_eq _ _))
  rw [e]
  have hS : (bufM.access (Rect.unit (s := S2x32x32x512) off S1x1x32x512.size inb)).setOn Finset.univ
      ⊆ ((slot h s).view.set : Finset S2x32x32x512.Idx) :=
    (subset_of_eq (View.setOn_univ _)).trans (subset_of_eq (access_slot_set h s hoff inb))
  have key := wp_store (defs := defs) (Γ := Γ) (Q := Q) 𝒱 (c : Thread nD τ) bd E (m := bufM) (r := Rect.unit (s := S2x32x32x512) off S1x1x32x512.size inb)
    (w := shapeCast S1x1x32x512 v hsc) (Mk := Finset.univ) (hx := hx) (hm := hm) (k := k) (S := (slot h s).view.set) (f := f) hS
  exact key

/-- A load of the 32 x 512 rectangle at (32 d, 512 h) of that buffer, holding chunk (d, h) at any share. -/
theorem wp_load_chunk_acc (d : Dev nD) (h : Fin 2) {off : Fin 2 → Nat} (hoff : off = ![32 * d.val, 512 * h.val])
    {inb : ∀ a, off a + S32x512.size a ≤ S1024x1024.size a}
    {hl : accM.view.LoadsAt (Rect.unit (s := S1024x1024) off S32x512.size inb).toLoadRect}
    {k : ((Rect.unit (s := S1024x1024) off S32x512.size inb).shape.Idx → Val .bf16) → Prog (TpuEff nD τ sig Val Λ .tc) α}
    {q : PosShare TreeShare} {f : Buf Val ((chunk accM d h).view.loc (c : Thread nD τ))} :
    ((chunk accM d h).view.loc (c : Thread nD τ) ↦[(chunk accM d h).view.set]{q} f : sProp 𝕄)
      ⊢ iprop((((chunk accM d h).view.loc (c : Thread nD τ) ↦[(chunk accM d h).view.set]{q} f)
            -∗ wp frame (wpE' defs 𝒱 (c : Thread nD τ) bd Γ) E
                (k ((accM.access (Rect.unit (s := S1024x1024) off S32x512.size inb)).read Val f)) Q)
          -∗ wp frame (wpE' defs 𝒱 (c : Thread nD τ) bd Γ) E
              (.op (.load accM (Rect.unit (s := S1024x1024) off S32x512.size inb).toLoadRect hl) k) Q) :=
  wp_load_rect (defs := defs) (Γ := Γ) (Q := Q) 𝒱 (c : Thread nD τ) bd E (m := accM)
    (r := Rect.unit (s := S1024x1024) off S32x512.size inb) (hl := hl) (k := k) (S := (chunk accM d h).view.set) (q := q) (f := f)
    (subset_of_eq (access_chunk_acc_set d h hoff inb))

/-- The block read there, when the chunk holds `w`. -/
theorem read_access_chunk_acc_rep [∀ e, Nonempty (Val e)] (d : Dev nD) (h : Fin 2) {off : Fin 2 → Nat} (hoff : off = ![32 * d.val, 512 * h.val])
    (inb : ∀ a, off a + S32x512.size a ≤ S1024x1024.size a) (w : S32x512.Idx → Val .bf16) :
    (accM.access (Rect.unit (s := S1024x1024) off S32x512.size inb)).read Val ((chunk accM d h).view.rep w) = w := by
  subst hoff
  exact View.read_rep (chunk accM d h).view w

/-- A store of a 32 x 512 block `w` into that rectangle, holding chunk (d, h) whole: the chunk then holds `w`. -/
theorem wp_store_chunk_acc [∀ e, Nonempty (Val e)] (d : Dev nD) (h : Fin 2) {off : Fin 2 → Nat} (hoff : off = ![32 * d.val, 512 * h.val])
    {inb : ∀ a, off a + S32x512.size a ≤ S1024x1024.size a}
    (w : S32x512.Idx → Val .bf16)
    {hx : (accM.access (Rect.unit (s := S1024x1024) off S32x512.size inb)).Stores Finset.univ}
    {hm : (Finset.univ : Finset (Rect.unit (s := S1024x1024) off S32x512.size inb).shape.Idx) = Finset.univ
      ∨ ∀ a, (Rect.unit (s := S1024x1024) off S32x512.size inb).stride a = 1}
    {k : PUnit → Prog (TpuEff nD τ sig Val Λ .tc) α}
    {f : Buf Val ((chunk accM d h).view.loc (c : Thread nD τ))} :
    ((chunk accM d h).view.loc (c : Thread nD τ) ↦[(chunk accM d h).view.set]{fullShare} f : sProp 𝕄)
      ⊢ iprop((((chunk accM d h).view.loc (c : Thread nD τ) ↦[(chunk accM d h).view.set]{fullShare} (chunk accM d h).view.rep w)
            -∗ wp frame (wpE' defs 𝒱 (c : Thread nD τ) bd Γ) E (k ⟨⟩) Q)
          -∗ wp frame (wpE' defs 𝒱 (c : Thread nD τ) bd Γ) E
              (.op (.store accM (Rect.unit (s := S1024x1024) off S32x512.size inb) w Finset.univ hx hm) k) Q) := by
  have e : ((chunk accM d h).view.loc (c : Thread nD τ) ↦[(chunk accM d h).view.set]{fullShare} (chunk accM d h).view.rep w : sProp 𝕄)
      = ((chunk accM d h).view.loc (c : Thread nD τ) ↦[(chunk accM d h).view.set]{fullShare}
          (accM.access (Rect.unit (s := S1024x1024) off S32x512.size inb)).write Val f w Finset.univ) := by
    refine pointsTo_congr fun i hi => ?_
    obtain ⟨y, -, rfl⟩ := Finset.mem_map.mp hi
    refine (View.rep_emb (chunk accM d h).view w y).trans ((cast_eq _ _).trans ?_)
    have hr := congrFun (read_chunk_acc_write d h hoff inb f w) y
    exact hr.symm.trans ((View.read_apply _ _).trans (cast_eq _ _))
  rw [e]
  have hS : (accM.access (Rect.unit (s := S1024x1024) off S32x512.size inb)).setOn Finset.univ
      ⊆ ((chunk accM d h).view.set : Finset S1024x1024.Idx) :=
    (subset_of_eq (View.setOn_univ _)).trans (subset_of_eq (access_chunk_acc_set d h hoff inb))
  have key := wp_store (defs := defs) (Γ := Γ) (Q := Q) 𝒱 (c : Thread nD τ) bd E (m := accM) (r := Rect.unit (s := S1024x1024) off S32x512.size inb)
    (w := w) (Mk := Finset.univ) (hx := hx) (hm := hm) (k := k) (S := (chunk accM d h).view.set) (f := f) hS
  exact key

/-- A load of the 32 x 512 rectangle at (32 d, 512 h) of that buffer, holding chunk (d, h) at any share. -/
theorem wp_load_chunk_out (d : Dev nD) (h : Fin 2) {off : Fin 2 → Nat} (hoff : off = ![32 * d.val, 512 * h.val])
    {inb : ∀ a, off a + S32x512.size a ≤ S1024x1024.size a}
    {hl : outM.view.LoadsAt (Rect.unit (s := S1024x1024) off S32x512.size inb).toLoadRect}
    {k : ((Rect.unit (s := S1024x1024) off S32x512.size inb).shape.Idx → Val .bf16) → Prog (TpuEff nD τ sig Val Λ .tc) α}
    {q : PosShare TreeShare} {f : Buf Val ((chunk outM d h).view.loc (c : Thread nD τ))} :
    ((chunk outM d h).view.loc (c : Thread nD τ) ↦[(chunk outM d h).view.set]{q} f : sProp 𝕄)
      ⊢ iprop((((chunk outM d h).view.loc (c : Thread nD τ) ↦[(chunk outM d h).view.set]{q} f)
            -∗ wp frame (wpE' defs 𝒱 (c : Thread nD τ) bd Γ) E
                (k ((outM.access (Rect.unit (s := S1024x1024) off S32x512.size inb)).read Val f)) Q)
          -∗ wp frame (wpE' defs 𝒱 (c : Thread nD τ) bd Γ) E
              (.op (.load outM (Rect.unit (s := S1024x1024) off S32x512.size inb).toLoadRect hl) k) Q) :=
  wp_load_rect (defs := defs) (Γ := Γ) (Q := Q) 𝒱 (c : Thread nD τ) bd E (m := outM)
    (r := Rect.unit (s := S1024x1024) off S32x512.size inb) (hl := hl) (k := k) (S := (chunk outM d h).view.set) (q := q) (f := f)
    (subset_of_eq (access_chunk_out_set d h hoff inb))

/-- The block read there, when the chunk holds `w`. -/
theorem read_access_chunk_out_rep [∀ e, Nonempty (Val e)] (d : Dev nD) (h : Fin 2) {off : Fin 2 → Nat} (hoff : off = ![32 * d.val, 512 * h.val])
    (inb : ∀ a, off a + S32x512.size a ≤ S1024x1024.size a) (w : S32x512.Idx → Val .bf16) :
    (outM.access (Rect.unit (s := S1024x1024) off S32x512.size inb)).read Val ((chunk outM d h).view.rep w) = w := by
  subst hoff
  exact View.read_rep (chunk outM d h).view w

/-- A store of a 32 x 512 block `w` into that rectangle, holding chunk (d, h) whole: the chunk then holds `w`. -/
theorem wp_store_chunk_out [∀ e, Nonempty (Val e)] (d : Dev nD) (h : Fin 2) {off : Fin 2 → Nat} (hoff : off = ![32 * d.val, 512 * h.val])
    {inb : ∀ a, off a + S32x512.size a ≤ S1024x1024.size a}
    (w : S32x512.Idx → Val .bf16)
    {hx : (outM.access (Rect.unit (s := S1024x1024) off S32x512.size inb)).Stores Finset.univ}
    {hm : (Finset.univ : Finset (Rect.unit (s := S1024x1024) off S32x512.size inb).shape.Idx) = Finset.univ
      ∨ ∀ a, (Rect.unit (s := S1024x1024) off S32x512.size inb).stride a = 1}
    {k : PUnit → Prog (TpuEff nD τ sig Val Λ .tc) α}
    {f : Buf Val ((chunk outM d h).view.loc (c : Thread nD τ))} :
    ((chunk outM d h).view.loc (c : Thread nD τ) ↦[(chunk outM d h).view.set]{fullShare} f : sProp 𝕄)
      ⊢ iprop((((chunk outM d h).view.loc (c : Thread nD τ) ↦[(chunk outM d h).view.set]{fullShare} (chunk outM d h).view.rep w)
            -∗ wp frame (wpE' defs 𝒱 (c : Thread nD τ) bd Γ) E (k ⟨⟩) Q)
          -∗ wp frame (wpE' defs 𝒱 (c : Thread nD τ) bd Γ) E
              (.op (.store outM (Rect.unit (s := S1024x1024) off S32x512.size inb) w Finset.univ hx hm) k) Q) := by
  have e : ((chunk outM d h).view.loc (c : Thread nD τ) ↦[(chunk outM d h).view.set]{fullShare} (chunk outM d h).view.rep w : sProp 𝕄)
      = ((chunk outM d h).view.loc (c : Thread nD τ) ↦[(chunk outM d h).view.set]{fullShare}
          (outM.access (Rect.unit (s := S1024x1024) off S32x512.size inb)).write Val f w Finset.univ) := by
    refine pointsTo_congr fun i hi => ?_
    obtain ⟨y, -, rfl⟩ := Finset.mem_map.mp hi
    refine (View.rep_emb (chunk outM d h).view w y).trans ((cast_eq _ _).trans ?_)
    have hr := congrFun (read_chunk_out_write d h hoff inb f w) y
    exact hr.symm.trans ((View.read_apply _ _).trans (cast_eq _ _))
  rw [e]
  have hS : (outM.access (Rect.unit (s := S1024x1024) off S32x512.size inb)).setOn Finset.univ
      ⊆ ((chunk outM d h).view.set : Finset S1024x1024.Idx) :=
    (subset_of_eq (View.setOn_univ _)).trans (subset_of_eq (access_chunk_out_set d h hoff inb))
  have key := wp_store (defs := defs) (Γ := Γ) (Q := Q) 𝒱 (c : Thread nD τ) bd E (m := outM) (r := Rect.unit (s := S1024x1024) off S32x512.size inb)
    (w := w) (Mk := Finset.univ) (hx := hx) (hm := hm) (k := k) (S := (chunk outM d h).view.set) (f := f) hS
  exact key

end Steps

/-- info: 'Cert.KernelIdeal.Regions.wp_store_slot' depends on axioms: [propext, Classical.choice, Quot.sound] -/
#guard_msgs in #print axioms wp_store_slot

/-- info: 'Cert.KernelIdeal.Regions.wp_store_chunk_out' depends on axioms: [propext, Classical.choice, Quot.sound] -/
#guard_msgs in #print axioms wp_store_chunk_out

/-- info: 'Cert.KernelIdeal.Regions.wp_store_chunk_acc' depends on axioms: [propext, Classical.choice, Quot.sound] -/
#guard_msgs in #print axioms wp_store_chunk_acc

/-- info: 'Cert.KernelIdeal.Regions.wp_load_chunk_acc' depends on axioms: [propext, Classical.choice, Quot.sound] -/
#guard_msgs in #print axioms wp_load_chunk_acc

/-- info: 'Cert.KernelIdeal.Regions.wp_load_chunk_out' depends on axioms: [propext, Classical.choice, Quot.sound] -/
#guard_msgs in #print axioms wp_load_chunk_out

/-- info: 'Cert.KernelIdeal.Regions.read_access_chunk_acc_rep' depends on axioms: [propext, Classical.choice, Quot.sound] -/
#guard_msgs in #print axioms read_access_chunk_acc_rep

/-- info: 'Cert.KernelIdeal.Regions.read_access_chunk_out_rep' depends on axioms: [propext, Classical.choice, Quot.sound] -/
#guard_msgs in #print axioms read_access_chunk_out_rep

/-- info: 'Cert.KernelIdeal.Regions.wp_load_slot' depends on axioms: [propext, Classical.choice, Quot.sound] -/
#guard_msgs in #print axioms wp_load_slot

end Cert.KernelIdeal.Regions

end
-- ==== Proof.GatherShares.lean ====
/-
  The share of the own gather rows: the full share is the left half, kept by the device, beside the right half dealt
  out in 31 parts, part `k` to the gather copy of offset `k`.
-/
import proofs.«900438_g7700000000000439_dist_gemm_ar_m1024_k1024_n1024_f32_gelu_v7x_i32_1_alg».proof.Proof.Protocol
import Idealize.ShloMosaic.Rules.PointsTo

noncomputable section

namespace Cert.KernelIdeal.Regions

open Cert.KernelIdeal Cert.KernelIdeal.Gen Cert.KernelIdeal.AllReduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The offsets `30 - j, …, 31`, in order. -/
def tailOffsets : (j : ℕ) → j ≤ 30 → List (Fin 32)
  | 0, _ => [31]
  | j + 1, h => ⟨30 - j, by omega⟩ :: tailOffsets j (by omega)

theorem tailOffsets_thirty : tailOffsets 30 le_rfl = ks := by decide +kernel

theorem shr_zero : shr 0 = fullShare.left := rfl
theorem shr_last : shr 31 = restShare 30 := rfl
theorem shr_mid (n : ℕ) (hn : n + 1 < 31) : shr ⟨n + 1, by omega⟩ = (restShare n).left := by
  unfold shr
  rw [if_neg (by intro e; have := congrArg Fin.val e; simp at this), if_neg (by intro e; have := congrArg Fin.val e; simp at this; omega)]
  rfl

section Shares
variable {nD : Nat} {τ : Topo} {sig : RefSig} {Ix : Type} [DecidableEq Ix]
variable {Val : EltTy → Type} {Name : Type} [DecidableEq Name]
variable {U : Type} [URA U] {Lvl : Type}
local notation "𝕄" => MT nD τ sig Ix Val Name U Lvl

theorem pointsTo_halves {ℓ : Loc nD τ sig} (I : Finset (Idx ℓ)) (q : PosShare TreeShare) (f : Buf Val ℓ) :
    (ℓ ↦[I]{q} f : sProp 𝕄) = iprop((ℓ ↦[I]{q.left} f) ∗ ℓ ↦[I]{q.right} f) :=
  have h : (ℓ ↦[I]{q} f : sProp 𝕄) ⊣⊢ iprop((ℓ ↦[I]{q.left} f) ∗ ℓ ↦[I]{q.right} f) :=
    pointsTo_share (PosShare.mem_left_op_right q)
  BI.equiv_iff.mp ⟨h.1, h.2⟩

/-- What is left after `30 - j` halvings is the parts of the offsets `30 - j + 1 … 31`. -/
theorem rest_eq_tail {ℓ : Loc nD τ sig} (I : Finset (Idx ℓ)) (f : Buf Val ℓ) :
    ∀ (j : ℕ) (hj : j ≤ 30), (ℓ ↦[I]{restShare (30 - j)} f : sProp 𝕄) = bigSepL (tailOffsets j hj) fun k => ℓ ↦[I]{shr k} f
  | 0, _ => by rw [shr_last.symm]; rfl
  | j + 1, hj => by
    have e : 30 - (j + 1) + 1 = 30 - j := by omega
    rw [pointsTo_halves I (restShare (30 - (j + 1))) f]
    show iprop((ℓ ↦[I]{(restShare (30 - (j + 1))).left} f) ∗ ℓ ↦[I]{restShare (30 - (j + 1) + 1)} f) = _
    rw [e, rest_eq_tail I f j (by omega)]
    show _ = bigSepL (⟨30 - j, by omega⟩ :: tailOffsets j (by omega)) fun k => ℓ ↦[I]{shr k} f
    rw [bigSepL_cons]
    have hs : shr ⟨30 - j, by omega⟩ = (restShare (30 - (j + 1))).left := by
      have := shr_mid (30 - (j + 1)) (by omega)
      rw [← this]
      exact congrArg shr (Fin.ext (by show 30 - j = 30 - (j + 1) + 1; omega))
    rw [hs]
    rfl

/-- The full share of a piece is the device's own half beside the 31 parts lent to the gather copies. -/
theorem pointsTo_full_eq_shares {ℓ : Loc nD τ sig} (I : Finset (Idx ℓ)) (f : Buf Val ℓ) :
    (ℓ ↦[I]{fullShare} f : sProp 𝕄) = iprop((ℓ ↦[I]{shr 0} f) ∗ bigSepL ks fun k => ℓ ↦[I]{shr k} f) := by
  rw [pointsTo_halves I fullShare f, ← tailOffsets_thirty, ← rest_eq_tail I f 30 le_rfl]
  rfl

end Shares

/-- info: 'Cert.KernelIdeal.Regions.pointsTo_full_eq_shares' depends on axioms: [propext, Classical.choice, Quot.sound] -/
#guard_msgs in #print axioms pointsTo_full_eq_shares

end Cert.KernelIdeal.Regions

end
-- ==== Proof.LoadPieces.lean ====
/-
  Loads that read across several pieces of a scratch buffer held one by one: the half of the receive buffer read over
  its 32 slots, and the half of the gather buffer read over the 32 devices' row chunks.  The pieces, held at one share
  at contents of their own, are the union held at glued contents; the load reads through the union and the pieces come
  back as they were.
-/
import proofs.«900438_g7700000000000439_dist_gemm_ar_m1024_k1024_n1024_f32_gelu_v7x_i32_1_alg».proof.Proof.RegionSplit
import proofs.«900438_g7700000000000439_dist_gemm_ar_m1024_k1024_n1024_f32_gelu_v7x_i32_1_alg».proof.Proof.GatherShares
import Idealize.ShloMosaic.Lib.Exec.Geometry
import Idealize.ShloMosaic.Lib.Exec.Context
import Idealize.ShloMosaic.Lib.ValueLayout

noncomputable section

namespace Cert.KernelIdeal.Regions

open Cert.KernelIdeal Cert.KernelIdeal.Gen Cert.KernelIdeal.AllReduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix4 eq_ix2)

section Generic
variable {nD : Nat} {τ : Topo} {sig : RefSig} {Ix : Type} [DecidableEq Ix]
variable {Val : EltTy → Type} {Name : Type} [DecidableEq Name]
variable {U : Type} [URA U] {Lvl : Type} {Λ : Labels}
local notation "𝕄" => MT nD τ sig Ix Val Name U Lvl

/-- Contents that agree with `fs t` on piece `t` of a pairwise disjoint family. -/
theorem exists_glue {T : Type} [Fintype T] [DecidableEq T] {ℓ : Loc nD τ sig} (K : T → Finset (Idx ℓ))
    (hd : ∀ t t', t ≠ t' → Disjoint (K t) (K t')) (fs : T → Buf Val ℓ) (f₀ : Buf Val ℓ) :
    ∃ g : Buf Val ℓ, ∀ t, ∀ i ∈ K t, g i = fs t i := by
  classical
  refine ⟨fun i => if h : ∃ t, i ∈ K t then fs (Classical.choose h) i else f₀ i, fun t i hi => ?_⟩
  have h : ∃ t, i ∈ K t := ⟨t, hi⟩
  have ht : Classical.choose h = t := by
    by_contra hne
    exact Finset.disjoint_left.mp (hd _ _ hne) (Classical.choose_spec h) hi
  simp only [dif_pos h, ht]

/-- Pieces held at contents of their own are the union held at glued contents. -/
theorem bigSep_pieces_eq {T : Type} [Fintype T] [DecidableEq T] {ℓ : Loc nD τ sig} (K : T → Finset (Idx ℓ))
    (hd : ∀ t t', t ≠ t' → Disjoint (K t) (K t')) (q : PosShare TreeShare) (fs : T → Buf Val ℓ) (g : Buf Val ℓ)
    (hg : ∀ t, ∀ i ∈ K t, g i = fs t i) :
    (bigSep Finset.univ (fun t => ℓ ↦[K t]{q} fs t) : sProp 𝕄) = ℓ ↦[Finset.univ.biUnion K]{q} g := by
  rw [pointsTo_biUnion Finset.univ K (fun t _ t' _ h => hd t t' h)]
  exact bigSep_congr fun t _ => (pointsTo_congr fun i hi => hg t i hi).symm

section Step
variable [Preorder Lvl] {defs : Defs nD τ sig Val Λ} (𝒱 : Variants) (c : Thread nD τ)
  (bd : Option 𝒱.V) {Γ : PendingWaitsCtx sig Ix} (E : Set Name)
variable {s : Shape} {e : EltTy}

/-- A load whose elements lie in the union of pieces held (at one share) at contents of their own: it reads `X` if every
    gluing of the pieces' contents reads `X` there, and the pieces come back as they were. -/
theorem wp_load_pieces {α : Type} {Q : α → sProp (MT nD τ sig Ix Val Name U Lvl)} {T : Type} [Fintype T] [DecidableEq T] {cs : CoreSpace} {m : Memref sig c.2.kind cs s e} {r : LoadRect s}
    {hl : m.view.LoadsAt r} {k : (r.shape.Idx → Val e) → Prog (TpuEff nD τ sig Val Λ c.2) α}
    (K : T → Finset (Idx (m.view.loc c))) (hd : ∀ t t', t ≠ t' → Disjoint (K t) (K t'))
    (hS : m.view.setOn r.set ⊆ Finset.univ.biUnion K) (q : PosShare TreeShare) (fs : T → Buf Val (m.view.loc c))
    (f₀ : Buf Val (m.view.loc c)) (X : r.shape.Idx → Val e)
    (hval : ∀ g : Buf Val (m.view.loc c), (∀ t, ∀ i ∈ K t, g i = fs t i) → m.view.readAt Val r g = X) :
    (bigSep Finset.univ (fun t => m.view.loc c ↦[K t]{q} fs t) : sProp 𝕄)
      ⊢ iprop((bigSep Finset.univ (fun t => m.view.loc c ↦[K t]{q} fs t) -∗ wp frame (wpE' defs 𝒱 c bd Γ) E (k X) Q)
        -∗ wp frame (wpE' defs 𝒱 c bd Γ) E (.op (.load m r hl) k) Q) := by
  obtain ⟨g, hg⟩ := exists_glue K hd fs f₀
  rw [bigSep_pieces_eq K hd q fs g hg, ← hval g hg]
  exact wp_load (defs := defs) (Γ := Γ) (Q := Q) 𝒱 c bd E (m := m) (r := r) (hl := hl) (k := k) (S := Finset.univ.biUnion K) (q := q) (f := g) hS

/-- A rule for part of what is held extends to the whole: the rest is carried across. -/
theorem wand_frame {P F W G : sProp 𝕄} (h : P ⊢ iprop((P -∗ W) -∗ G)) : iprop(P ∗ F) ⊢ iprop(((P ∗ F) -∗ W) -∗ G) := by
  refine BI.wand_intro ?_
  refine BI.sep_assoc.trans ?_
  refine (BI.sep_mono_r (BI.wand_intro ?_)).trans (BI.wand_elim h)
  refine BI.sep_assoc.trans ?_
  refine BI.sep_comm.trans ?_
  refine BI.sep_assoc.trans ?_
  exact BI.wand_elim (BI.Entails.refl _)

end Step
end Generic

/-! ## Where a slot's and a chunk's elements sit -/

/-- Element `(r, j)` of slot `(h, s)` is element `(h, s, r, j)` of the receive buffer. -/
theorem slot_emb (h : Fin 2) (s : Fin 32) (r : Fin 32) (j : Fin 512) :
    ((slot h s).view.emb (ix2 r j) : S2x32x32x512.Idx) = ix4 h s r j := by
  show (Rect.unit (s := S2x32x32x512) ![h.val, s.val, 0, 0] S1x1x32x512.size (inb_slot h s)).emb
      (Shape.reshapeEquiv squeezes_S1x1x32x512_S32x512.numel_eq (ix2 r j)) = ix4 h s r j
  rw [ValueIdx.reshapeEquiv_ix2_11ab]
  funext a
  refine Fin.ext ?_
  match a with
  | ⟨0, _⟩ => show h.val + 1 * 0 = h.val; omega
  | ⟨1, _⟩ => show s.val + 1 * 0 = s.val; omega
  | ⟨2, _⟩ => show 0 + 1 * r.val = r.val; omega
  | ⟨3, _⟩ => show 0 + 1 * j.val = j.val; omega

/-- Element `(r, j)` of chunk `(d, h)` of the gather buffer is element `(32 d + r, 512 h + j)`. -/
theorem chunk_out_emb (d : Dev nD) (h : Fin 2) (r : Fin 32) (j : Fin 512) :
    ((chunk outM d h).view.emb (ix2 r j) : S1024x1024.Idx)
      = ix2 (⟨32 * d.val + r.val, by have := d.isLt; have := r.isLt; simp only [nD] at *; omega⟩ : Fin 1024)
          (⟨512 * h.val + j.val, by have := h.isLt; have := j.isLt; omega⟩ : Fin 1024) := by
  funext a
  refine Fin.ext ?_
  match a with
  | ⟨0, _⟩ => show 32 * d.val + 1 * r.val = 32 * d.val + r.val; omega
  | ⟨1, _⟩ => show 512 * h.val + 1 * j.val = 512 * h.val + j.val; omega

/-- The 32 places of a half, in order. -/
abbrev places : List (Fin 32) := [0, 1, 2, 3, 4, 5, 6, 7, 8, 9, 10, 11, 12, 13, 14, 15, 16, 17, 18, 19, 20, 21, 22, 23, 24, 25, 26, 27, 28, 29, 30, 31]
theorem places_univ : (Finset.univ : Finset (Fin 32)) = places.toFinset := by decide +kernel
theorem places_nodup : places.Nodup := by decide +kernel

section Loads
variable {Ix : Type} [DecidableEq Ix] {Val : EltTy → Type} [∀ e, Nonempty (Val e)] {Name : Type} [DecidableEq Name] {U : Type} [URA U]
variable {Lvl : Type} [Preorder Lvl] {Λ : Labels}
variable {defs : Defs nD τ sig Val Λ} (𝒱 : Variants) (c : Dev nD) (bd : Option 𝒱.V) {Γ : PendingWaitsCtx sig Ix} (E : Set Name)
variable {α : Type} {Q : α → sProp (MT nD τ sig Ix Val Name U Lvl)}
local notation "𝕄" => MT nD τ sig Ix Val Name U Lvl

/-- THE HALF LOAD: the 1 x 32 x 32 x 512 rectangle at (h, 0, 0, 0), the 32 slots of half `h` held (at one share) each at a
    block of its own: it reads, at `(0, s, r, j)`, slot `s`'s block at `(r, j)`; the slots come back as they were. -/
theorem wp_load_half (h : Fin 2) {off : Fin 4 → Nat} (hoff : off = ![h.val, 0, 0, 0])
    {inb : ∀ a, off a + S1x32x32x512.size a ≤ S2x32x32x512.size a}
    {hl : bufM.view.LoadsAt (Rect.unit (s := S2x32x32x512) off S1x32x32x512.size inb).toLoadRect}
    {k : ((Rect.unit (s := S2x32x32x512) off S1x32x32x512.size inb).toLoadRect.shape.Idx → Val .bf16) → Prog (TpuEff nD τ sig Val Λ .tc) α}
    (q : PosShare TreeShare) (vals : Fin 32 → S32x512.Idx → Val .bf16) :
    (bigSepL places (fun s => (slot h s).view.loc (c : Thread nD τ) ↦[(slot h s).view.set]{q} (slot h s).view.rep (vals s)) : sProp 𝕄)
      ⊢ iprop((bigSepL places (fun s => (slot h s).view.loc (c : Thread nD τ) ↦[(slot h s).view.set]{q} (slot h s).view.rep (vals s))
            -∗ wp frame (wpE' defs 𝒱 (c : Thread nD τ) bd Γ) E (k (fun j : S1x32x32x512.Idx => vals (j 1) (ix2 (j 2) (j 3)))) Q)
          -∗ wp frame (wpE' defs 𝒱 (c : Thread nD τ) bd Γ) E
              (.op (.load bufM (Rect.unit (s := S2x32x32x512) off S1x32x32x512.size inb).toLoadRect hl) k) Q) := by
  subst hoff
  rw [← bigSep_univ_eq_bigSepL places places_univ places_nodup]
  refine wp_load_pieces (defs := defs) (Γ := Γ) (Q := Q) 𝒱 (c : Thread nD τ) bd E (m := bufM)
    (r := (Rect.unit (s := S2x32x32x512) ![h.val, 0, 0, 0] S1x32x32x512.size inb).toLoadRect) (hl := hl) (k := k) (T := Fin 32)
    (fun s => ((slot h s).view.set : Finset S2x32x32x512.Idx))
    (fun s s' hne => slot_disjoint (h, s) (h, s') (fun e => hne (congrArg Prod.snd e))) ?_ q
    (fun s => (slot h s).view.rep (vals s)) ((slot h 0).view.rep (vals 0)) _ ?_
  · intro i hi
    obtain ⟨x, hx, rfl⟩ := Finset.mem_map.mp hi
    have hx' := (Rect.mem_set_unit (i := x)).mp hx
    have h0 : h.val ≤ (x 0).val ∧ (x 0).val < h.val + 1 := hx' 0
    refine Finset.mem_biUnion.mpr ⟨⟨(x 1).val, (x 1).isLt⟩, Finset.mem_univ _, ?_⟩
    exact (mem_slot_set h _ x).mpr ⟨by omega, rfl⟩
  · intro g hg
    funext j
    obtain ⟨a0, s, r, jj, rfl⟩ : ∃ (a0 : Fin 1) (s : Fin 32) (r : Fin 32) (jj : Fin 512), j = ix4 a0 s r jj :=
      ⟨j 0, j 1, j 2, j 3, ValueIdx.eq_ix4 j⟩
    have he : ((Rect.unit (s := S2x32x32x512) ![h.val, 0, 0, 0] S1x32x32x512.size inb).toLoadRect.idx (ix4 a0 s r jj) : S2x32x32x512.Idx)
        = (slot h s).view.emb (ix2 r jj) := by
      rw [slot_emb]
      funext a
      refine Fin.ext ?_
      have j0 : a0.val < 1 := a0.isLt
      match a with
      | ⟨0, _⟩ => show h.val + 1 * a0.val = h.val; omega
      | ⟨1, _⟩ => show 0 + 1 * s.val = s.val; omega
      | ⟨2, _⟩ => show 0 + 1 * r.val = r.val; omega
      | ⟨3, _⟩ => show 0 + 1 * jj.val = jj.val; omega
    have hgs := hg s ((slot h s).view.emb (ix2 r jj)) (View.emb_mem_set _ _)
    have hrep := View.rep_emb (slot h s).view (vals s) (ix2 r jj)
    show _root_.cast (congrArg Val bufM.view.elt_eq)
        (g ((Rect.unit (s := S2x32x32x512) ![h.val, 0, 0, 0] S1x32x32x512.size inb).toLoadRect.idx (ix4 a0 s r jj))) = vals s (ix2 r jj)
    rw [he, hgs, hrep]
    exact (cast_eq _ _).trans (cast_eq _ _)

theorem bwd_bwd : ∀ (c d : Dev nD), bwd c (bwd c d) = d := by decide +kernel
theorem bwd_inj : ∀ (c : Dev nD) (k k' : Fin 32), bwd c k = bwd c k' → k = k' := by decide +kernel
theorem univ_eq_insert_ks : (Finset.univ : Finset (Fin 32)) = insert 0 ks.toFinset := by decide +kernel
theorem zero_not_mem_ks : (0 : Fin 32) ∉ ks.toFinset := by decide +kernel
theorem ks_nodup : ks.Nodup := by decide +kernel

/-- Row chunk `h` of the device `k'` places before `c`, in `c`'s gather buffer, held at share `q` at the block `vals` names. -/
abbrev widenPiece (h : Fin 2) (vals : Dev nD → S32x512.Idx → Val .bf16) (q : PosShare TreeShare) (k' : Fin 32) : sProp 𝕄 :=
  (chunk outM (bwd c k') h).view.loc (c : Thread nD τ) ↦[(chunk outM (bwd c k') h).view.set]{q} (chunk outM (bwd c k') h).view.rep (vals (bwd c k'))

/-- The own rows, as the piece at offset 0. -/
abbrev ownPiece (h : Fin 2) (vals : Dev nD → S32x512.Idx → Val .bf16) (q : PosShare TreeShare) : sProp 𝕄 :=
  (chunk outM c h).view.loc (c : Thread nD τ) ↦[(chunk outM c h).view.set]{q} (chunk outM c h).view.rep (vals c)

theorem widenPiece_zero (h : Fin 2) (vals : Dev nD → S32x512.Idx → Val .bf16) (q : PosShare TreeShare) :
    widenPiece (Ix := Ix) (Name := Name) (U := U) (Lvl := Lvl) c h vals q 0 = ownPiece c h vals q := by
  unfold widenPiece ownPiece
  rw [bwd_zero c]

/-- The own rows at the left half beside the others at the full share: all 32 at the left half, beside the others' right halves. -/
theorem widen_split (h : Fin 2) (vals : Dev nD → S32x512.Idx → Val .bf16) :
    (iprop((ownPiece (Ix := Ix) (Name := Name) (U := U) (Lvl := Lvl) c h vals fullShare.left) ∗ bigSepL ks (widenPiece c h vals fullShare)) : sProp 𝕄)
      = iprop(bigSep Finset.univ (widenPiece c h vals fullShare.left) ∗ bigSep ks.toFinset (widenPiece c h vals fullShare.right)) := by
  have eB : bigSepL ks (widenPiece (Ix := Ix) (Name := Name) (U := U) (Lvl := Lvl) c h vals fullShare)
      = BI.sep (bigSep ks.toFinset (widenPiece c h vals fullShare.left)) (bigSep ks.toFinset (widenPiece c h vals fullShare.right)) := by
    rw [← bigSep_eq_bigSepL ks ks_nodup, ← bigSep_sep]
    exact bigSep_congr fun k' _ => (pointsTo_halves _ fullShare _).trans rfl
  have eU : bigSep Finset.univ (widenPiece (Ix := Ix) (Name := Name) (U := U) (Lvl := Lvl) c h vals fullShare.left)
      = BI.sep (ownPiece c h vals fullShare.left) (bigSep ks.toFinset (widenPiece c h vals fullShare.left)) := by
    rw [univ_eq_insert_ks, bigSep_insert zero_not_mem_ks, widenPiece_zero]
  show BI.sep (ownPiece c h vals fullShare.left) (bigSepL ks (widenPiece c h vals fullShare))
      = BI.sep (bigSep Finset.univ (widenPiece c h vals fullShare.left)) (bigSep ks.toFinset (widenPiece c h vals fullShare.right))
  rw [eB, eU]
  exact (Std.Associative.assoc (op := (BI.sep : sProp 𝕄 → _ → _)) _ _ _).symm

/-- THE WIDENING LOAD: the 1024 x 512 rectangle at (0, 512 h) of the gather buffer, the own rows held at the left half of the
    full share and the rows of the device `k` places before, `k = 1 … 31`, at the full share, each at a block of its own: it
    reads, at `(i, j)`, the block of device `i / 32` at `(i % 32, j)`; what was held comes back as it was. -/
theorem wp_load_widen (h : Fin 2) {off : Fin 2 → Nat} (hoff : off = ![0, 512 * h.val])
    {inb : ∀ a, off a + S1024x512.size a ≤ S1024x1024.size a}
    {hl : outM.view.LoadsAt (Rect.unit (s := S1024x1024) off S1024x512.size inb).toLoadRect}
    {k : ((Rect.unit (s := S1024x1024) off S1024x512.size inb).toLoadRect.shape.Idx → Val .bf16) → Prog (TpuEff nD τ sig Val Λ .tc) α}
    (vals : Dev nD → S32x512.Idx → Val .bf16) :
    (iprop(((chunk outM c h).view.loc (c : Thread nD τ) ↦[(chunk outM c h).view.set]{fullShare.left} (chunk outM c h).view.rep (vals c))
        ∗ bigSepL ks (fun k' => (chunk outM (bwd c k') h).view.loc (c : Thread nD τ) ↦[(chunk outM (bwd c k') h).view.set]{fullShare}
            (chunk outM (bwd c k') h).view.rep (vals (bwd c k')))) : sProp 𝕄)
      ⊢ iprop((iprop(((chunk outM c h).view.loc (c : Thread nD τ) ↦[(chunk outM c h).view.set]{fullShare.left} (chunk outM c h).view.rep (vals c))
            ∗ bigSepL ks (fun k' => (chunk outM (bwd c k') h).view.loc (c : Thread nD τ) ↦[(chunk outM (bwd c k') h).view.set]{fullShare}
                (chunk outM (bwd c k') h).view.rep (vals (bwd c k'))))
            -∗ wp frame (wpE' defs 𝒱 (c : Thread nD τ) bd Γ) E
                (k (fun i : S1024x512.Idx => vals ⟨(i 0).val / 32, by have h0 : (i 0).val < 1024 := (i 0).isLt; simp only [nD]; omega⟩
                  (ix2 ⟨(i 0).val % 32, Nat.mod_lt _ (by decide)⟩ (i 1)))) Q)
          -∗ wp frame (wpE' defs 𝒱 (c : Thread nD τ) bd Γ) E
              (.op (.load outM (Rect.unit (s := S1024x1024) off S1024x512.size inb).toLoadRect hl) k) Q) := by
  subst hoff
  show (iprop((ownPiece (Ix := Ix) (Name := Name) (U := U) (Lvl := Lvl) c h vals fullShare.left) ∗ bigSepL ks (widenPiece c h vals fullShare)) : sProp 𝕄)
      ⊢ iprop((iprop((ownPiece c h vals fullShare.left) ∗ bigSepL ks (widenPiece c h vals fullShare)) -∗ _) -∗ _)
  rw [widen_split c h vals]
  refine wand_frame ?_
  refine wp_load_pieces (defs := defs) (Γ := Γ) (Q := Q) 𝒱 (c : Thread nD τ) bd E (m := outM)
    (r := (Rect.unit (s := S1024x1024) ![0, 512 * h.val] S1024x512.size inb).toLoadRect) (hl := hl) (k := k) (T := Fin 32)
    (fun k' => ((chunk outM (bwd c k') h).view.set : Finset S1024x1024.Idx))
    (fun k' k'' hne => chunk_out_disjoint (h, bwd c k') (h, bwd c k'') (fun e => hne (bwd_inj c _ _ (congrArg Prod.snd e)))) ?_ fullShare.left
    (fun k' => (chunk outM (bwd c k') h).view.rep (vals (bwd c k'))) ((chunk outM c h).view.rep (vals c)) _ ?_
  · intro i hi
    obtain ⟨x, hx, rfl⟩ := Finset.mem_map.mp hi
    have hx' := (Rect.mem_set_unit (i := x)).mp hx
    have h1 : 512 * h.val ≤ (x 1).val ∧ (x 1).val < 512 * h.val + 512 := hx' 1
    have h0 : (x 0).val < 1024 := (x 0).isLt
    have hdlt : (x 0).val / 32 < nD := by simp only [nD]; omega
    have hb := bwd_bwd c ⟨(x 0).val / 32, hdlt⟩
    refine Finset.mem_biUnion.mpr ⟨bwd c ⟨(x 0).val / 32, hdlt⟩, Finset.mem_univ _, ?_⟩
    have hm : x ∈ ((chunk outM (⟨(x 0).val / 32, hdlt⟩ : Dev nD) h).view.set : Finset S1024x1024.Idx) :=
      (mem_chunk_out_set _ _ x).mpr ⟨rfl, by omega⟩
    rw [← hb] at hm
    exact hm
  · intro g hg
    funext j
    obtain ⟨a, b, rfl⟩ : ∃ (a : Fin 1024) (b : Fin 512), j = ix2 a b := ⟨j 0, j 1, eq_ix2 j⟩
    have hdlt : a.val / 32 < nD := by have := a.isLt; simp only [nD]; omega
    have key : ∀ (d : Dev nD) (k' : Fin 32), bwd c k' = d → d.val = a.val / 32 →
        g ((Rect.unit (s := S1024x1024) ![0, 512 * h.val] S1024x512.size inb).toLoadRect.idx (ix2 a b))
          = _root_.cast (congrArg Val (chunk outM d h).view.elt_eq.symm) (vals d (ix2 ⟨a.val % 32, Nat.mod_lt _ (by decide)⟩ b)) := by
      intro d k' hk' hd
      subst hk'
      have he : ((Rect.unit (s := S1024x1024) ![0, 512 * h.val] S1024x512.size inb).toLoadRect.idx (ix2 a b) : S1024x1024.Idx)
          = (chunk outM (bwd c k') h).view.emb (ix2 ⟨a.val % 32, Nat.mod_lt _ (by decide)⟩ b) := by
        rw [chunk_out_emb]
        funext a'
        refine Fin.ext ?_
        match a' with
        | ⟨0, _⟩ => show 0 + 1 * a.val = 32 * (bwd c k').val + a.val % 32; omega
        | ⟨1, _⟩ => show 512 * h.val + 1 * b.val = 512 * h.val + b.val; omega
      have hgs := hg k' ((chunk outM (bwd c k') h).view.emb (ix2 ⟨a.val % 32, Nat.mod_lt _ (by decide)⟩ b)) (View.emb_mem_set _ _)
      have hrep := View.rep_emb (chunk outM (bwd c k') h).view (vals (bwd c k')) (ix2 ⟨a.val % 32, Nat.mod_lt _ (by decide)⟩ b)
      rw [he, hgs, hrep]
    show _root_.cast (congrArg Val outM.view.elt_eq)
        (g ((Rect.unit (s := S1024x1024) ![0, 512 * h.val] S1024x512.size inb).toLoadRect.idx (ix2 a b)))
      = vals ⟨a.val / 32, _⟩ (ix2 ⟨a.val % 32, _⟩ b)
    rw [key ⟨a.val / 32, hdlt⟩ (bwd c ⟨a.val / 32, hdlt⟩) (bwd_bwd c _) rfl]
    exact (cast_eq _ _).trans (cast_eq _ _)

/-- The half load with the own slot named apart from the 31 received ones. -/
theorem wp_load_half' (h : Fin 2) {off : Fin 4 → Nat} (hoff : off = ![h.val, 0, 0, 0])
    {inb : ∀ a, off a + S1x32x32x512.size a ≤ S2x32x32x512.size a}
    {hl : bufM.view.LoadsAt (Rect.unit (s := S2x32x32x512) off S1x32x32x512.size inb).toLoadRect}
    {k : ((Rect.unit (s := S2x32x32x512) off S1x32x32x512.size inb).toLoadRect.shape.Idx → Val .bf16) → Prog (TpuEff nD τ sig Val Λ .tc) α}
    (q : PosShare TreeShare) (vals : Fin 32 → S32x512.Idx → Val .bf16) :
    (iprop(((slot h 0).view.loc (c : Thread nD τ) ↦[(slot h 0).view.set]{q} (slot h 0).view.rep (vals 0))
        ∗ bigSepL ks (fun s => (slot h s).view.loc (c : Thread nD τ) ↦[(slot h s).view.set]{q} (slot h s).view.rep (vals s))) : sProp 𝕄)
      ⊢ iprop((iprop(((slot h 0).view.loc (c : Thread nD τ) ↦[(slot h 0).view.set]{q} (slot h 0).view.rep (vals 0))
              ∗ bigSepL ks (fun s => (slot h s).view.loc (c : Thread nD τ) ↦[(slot h s).view.set]{q} (slot h s).view.rep (vals s)))
            -∗ wp frame (wpE' defs 𝒱 (c : Thread nD τ) bd Γ) E (k (fun j : S1x32x32x512.Idx => vals (j 1) (ix2 (j 2) (j 3)))) Q)
          -∗ wp frame (wpE' defs 𝒱 (c : Thread nD τ) bd Γ) E
              (.op (.load bufM (Rect.unit (s := S2x32x32x512) off S1x32x32x512.size inb).toLoadRect hl) k) Q) :=
  wp_load_half (defs := defs) (Γ := Γ) (Q := Q) 𝒱 c bd E h hoff (inb := inb) (hl := hl) (k := k) q vals

end Loads

/-- info: 'Cert.KernelIdeal.Regions.wp_load_half' depends on axioms: [propext, Classical.choice, Quot.sound] -/
#guard_msgs in #print axioms wp_load_half

/-- info: 'Cert.KernelIdeal.Regions.wp_load_half'' depends on axioms: [propext, Classical.choice, Quot.sound] -/
#guard_msgs in #print axioms wp_load_half'

/-- info: 'Cert.KernelIdeal.Regions.wp_load_widen' depends on axioms: [propext, Classical.choice, Quot.sound] -/
#guard_msgs in #print axioms wp_load_widen

/-- info: 'Cert.KernelIdeal.Regions.wp_load_pieces' depends on axioms: [propext, Classical.choice, Quot.sound] -/
#guard_msgs in #print axioms wp_load_pieces

end Cert.KernelIdeal.Regions

end
-- ==== Proof.PartialProductChunks.lean ====
/-
  The partial product after its two half stores, read chunk by chunk: chunk (d, h) holds, at (r, j), the half-`h`
  block stored, at row `32 d + r` and column `j`.
-/
import proofs.«900438_g7700000000000439_dist_gemm_ar_m1024_k1024_n1024_f32_gelu_v7x_i32_1_alg».proof.Proof.RegionSplit
import Idealize.ShloMosaic.Lib.Writes
import Idealize.ShloMosaic.Lib.ValueIdx

noncomputable section

namespace Cert.KernelIdeal.Regions

open Cert.KernelIdeal Cert.KernelIdeal.Gen Cert.KernelIdeal.AllReduce
open Idealize.ShloMosaic
open Idealize.ShloMosaic.TcCoe
open Idealize.ShloMosaic.ValueIdx (ix2 eq_ix2)

variable {Val : EltTy → Type}

/-- The two half blocks side by side, as one function of the buffer's index. -/
def sideBySide (P0 P1 : S1024x512.Idx → Val .bf16) : S1024x1024.Idx → Val .bf16 := fun i =>
  if hlt : (i 1).val < 512 then P0 (ix2 (i 0) ⟨(i 1).val, hlt⟩)
  else P1 (ix2 (i 0) ⟨(i 1).val - 512, by have h1 : (i 1).val < 1024 := (i 1).isLt; omega⟩)

theorem half0_piece (P0 P1 : S1024x512.Idx → Val .bf16) (inb0 : ∀ a, (![0, 0] : Fin 2 → Nat) a + S1024x512.size a ≤ S1024x1024.size a)
    (x : (Rect.unit (s := S1024x1024) ![0, 0] S1024x512.size inb0).shape.Idx) :
    P0 x = sideBySide P0 P1 ((Rect.unit (s := S1024x1024) ![0, 0] S1024x512.size inb0).emb x) := by
  have hx1 : (x 1).val < 512 := (x 1).isLt
  have hlt : (((Rect.unit (s := S1024x1024) ![0, 0] S1024x512.size inb0).emb x) 1).val < 512 := by
    show 0 + 1 * (x 1).val < 512; omega
  unfold sideBySide
  rw [dif_pos hlt]
  refine congrArg P0 (funext fun a => Fin.ext ?_)
  match a with
  | ⟨0, _⟩ => show (x 0).val = 0 + 1 * (x 0).val; omega
  | ⟨1, _⟩ => show (x 1).val = 0 + 1 * (x 1).val; omega

theorem half1_piece (P0 P1 : S1024x512.Idx → Val .bf16) (inb1 : ∀ a, (![0, 512] : Fin 2 → Nat) a + S1024x512.size a ≤ S1024x1024.size a)
    (x : (Rect.unit (s := S1024x1024) ![0, 512] S1024x512.size inb1).shape.Idx) :
    P1 x = sideBySide P0 P1 ((Rect.unit (s := S1024x1024) ![0, 512] S1024x512.size inb1).emb x) := by
  have hx1 : (x 1).val < 512 := (x 1).isLt
  have hge : ¬ (((Rect.unit (s := S1024x1024) ![0, 512] S1024x512.size inb1).emb x) 1).val < 512 := by
    show ¬ (512 + 1 * (x 1).val < 512); omega
  unfold sideBySide
  rw [dif_neg hge]
  refine congrArg P1 (funext fun a => Fin.ext ?_)
  match a with
  | ⟨0, _⟩ => show (x 0).val = 0 + 1 * (x 0).val; omega
  | ⟨1, _⟩ => show (x 1).val = 512 + 1 * (x 1).val - 512; omega

/-- The two half blocks read at row chunk `d`, half `h`. -/
theorem sideBySide_chunk (P0 P1 : S1024x512.Idx → Val .bf16) (d : Dev nD) (h : Fin 2) (y : S32x512.Idx) :
    sideBySide P0 P1 ((Rect.unit (s := S1024x1024) ![32 * d.val, 512 * h.val] S32x512.size (inb_chunk d h)).emb y)
      = (if h = 0 then P0 else P1) (ix2 (rowOf d (y 0)) (y 1)) := by
  have hy1 : (y 1).val < 512 := (y 1).isLt
  unfold sideBySide
  match h with
  | 0 =>
    have hlt : (((Rect.unit (s := S1024x1024) ![32 * d.val, 512 * (0 : Fin 2).val] S32x512.size (inb_chunk d 0)).emb y) 1).val < 512 := by
      show 512 * 0 + 1 * (y 1).val < 512; omega
    rw [dif_pos hlt, if_pos rfl]
    refine congrArg P0 (funext fun a => Fin.ext ?_)
    match a with
    | ⟨0, _⟩ => show 32 * d.val + 1 * (y 0).val = 32 * d.val + (y 0).val; omega
    | ⟨1, _⟩ => show 512 * 0 + 1 * (y 1).val = (y 1).val; omega
  | 1 =>
    have hge : ¬ (((Rect.unit (s := S1024x1024) ![32 * d.val, 512 * (1 : Fin 2).val] S32x512.size (inb_chunk d 1)).emb y) 1).val < 512 := by
      show ¬ (512 * 1 + 1 * (y 1).val < 512); omega
    rw [dif_neg hge, if_neg (by decide)]
    refine congrArg P1 (funext fun a => Fin.ext ?_)
    match a with
    | ⟨0, _⟩ => show 32 * d.val + 1 * (y 0).val = 32 * d.val + (y 0).val; omega
    | ⟨1, _⟩ => show 512 * 1 + 1 * (y 1).val - 512 = (y 1).val; omega

/-- After the first half store, chunk (d, 0) of the partial product holds the rows of row chunk `d` of the block stored. -/
theorem read_chunk_acc_writes_first (f : accM.view.ty.Contents Val) (P0 : S1024x512.Idx → Val .bf16)
    (inb0 : ∀ a, (![0, 0] : Fin 2 → Nat) a + S1024x512.size a ≤ S1024x1024.size a) (d : Dev nD) :
    (chunk accM d 0).view.read Val (accM.view.writes Val f [⟨Rect.unit (s := S1024x1024) ![0, 0] S1024x512.size inb0, P0⟩])
      = fun y => P0 (ix2 (rowOf d (y 0)) (y 1)) := by
  funext y
  show accM.view.read Val (accM.view.writes Val f [⟨Rect.unit (s := S1024x1024) ![0, 0] S1024x512.size inb0, P0⟩])
      ((Rect.unit (s := S1024x1024) ![32 * d.val, 512 * (0 : Fin 2).val] S32x512.size (inb_chunk d 0)).emb y) = _
  rw [View.read_writes_apply_of_pieces accM.view f (sideBySide P0 P0) _ ?_ _ ?_]
  · exact (sideBySide_chunk P0 P0 d 0 y).trans (by rw [if_pos rfl])
  · intro p hp x
    obtain rfl : p = ⟨Rect.unit (s := S1024x1024) ![0, 0] S1024x512.size inb0, P0⟩ := List.mem_singleton.mp hp
    exact half0_piece P0 P0 inb0 x
  · refine ⟨⟨Rect.unit (s := S1024x1024) ![0, 0] S1024x512.size inb0, P0⟩, List.mem_singleton.mpr rfl, ?_⟩
    show _ ∈ (Rect.unit (s := S1024x1024) ![0, 0] S1024x512.size inb0).set
    rw [Rect.mem_set_unit]
    intro a
    have hy0 : (y 0).val < 32 := (y 0).isLt
    have hy1 : (y 1).val < 512 := (y 1).isLt
    have hd : d.val < 32 := d.isLt
    match a with
    | ⟨0, _⟩ => show 0 ≤ 32 * d.val + 1 * (y 0).val ∧ 32 * d.val + 1 * (y 0).val < 0 + 1024; omega
    | ⟨1, _⟩ => show 0 ≤ 512 * 0 + 1 * (y 1).val ∧ 512 * 0 + 1 * (y 1).val < 0 + 512; omega

/-- After both half stores, chunk (d, h) holds the rows of row chunk `d` of the half-`h` block. -/
theorem read_chunk_acc_writes_both (f : accM.view.ty.Contents Val) (P0 P1 : S1024x512.Idx → Val .bf16)
    (inb0 : ∀ a, (![0, 0] : Fin 2 → Nat) a + S1024x512.size a ≤ S1024x1024.size a)
    (inb1 : ∀ a, (![0, 512] : Fin 2 → Nat) a + S1024x512.size a ≤ S1024x1024.size a) (d : Dev nD) (h : Fin 2) :
    (chunk accM d h).view.read Val (accM.view.writes Val f
        [⟨Rect.unit (s := S1024x1024) ![0, 512] S1024x512.size inb1, P1⟩, ⟨Rect.unit (s := S1024x1024) ![0, 0] S1024x512.size inb0, P0⟩])
      = fun y => (if h = 0 then P0 else P1) (ix2 (rowOf d (y 0)) (y 1)) := by
  funext y
  show accM.view.read Val (accM.view.writes Val f
        [⟨Rect.unit (s := S1024x1024) ![0, 512] S1024x512.size inb1, P1⟩, ⟨Rect.unit (s := S1024x1024) ![0, 0] S1024x512.size inb0, P0⟩])
      ((Rect.unit (s := S1024x1024) ![32 * d.val, 512 * h.val] S32x512.size (inb_chunk d h)).emb y) = _
  rw [View.read_writes_apply_of_pieces accM.view f (sideBySide P0 P1) _ ?_ _ ?_]
  · exact sideBySide_chunk P0 P1 d h y
  · intro p hp x
    rcases List.mem_cons.mp hp with rfl | hp
    · exact half1_piece P0 P1 inb1 x
    · obtain rfl : p = ⟨Rect.unit (s := S1024x1024) ![0, 0] S1024x512.size inb0, P0⟩ := List.mem_singleton.mp hp
      exact half0_piece P0 P1 inb0 x
  · have hy0 : (y 0).val < 32 := (y 0).isLt
    have hy1 : (y 1).val < 512 := (y 1).isLt
    have hd : d.val < 32 := d.isLt
    match h with
    | 0 =>
      refine ⟨⟨Rect.unit (s := S1024x1024) ![0, 0] S1024x512.size inb0, P0⟩, List.mem_cons_of_mem _ (List.mem_singleton.mpr rfl), ?_⟩
      show _ ∈ (Rect.unit (s := S1024x1024) ![0, 0] S1024x512.size inb0).set
      rw [Rect.mem_set_unit]
      intro a
      match a with
      | ⟨0, _⟩ => show 0 ≤ 32 * d.val + 1 * (y 0).val ∧ 32 * d.val + 1 * (y 0).val < 0 + 1024; omega
      | ⟨1, _⟩ => show 0 ≤ 512 * 0 + 1 * (y 1).val ∧ 512 * 0 + 1 * (y 1).val < 0 + 512; omega
    | 1 =>
      refine ⟨⟨Rect.unit (s := S1024x1024) ![0, 512] S1024x512.size inb1, P1⟩, List.mem_cons_self, ?_⟩
      show _ ∈ (Rect.unit (s := S1024x1024) ![0, 512] S1024x512.size inb1).set
      rw [Rect.mem_set_unit]
      intro a
      match a with
      | ⟨0, _⟩ => show 0 ≤ 32 * d.val + 1 * (y 0).val ∧ 32 * d.val + 1 * (y 0).val < 0 + 1024; omega
      | ⟨1, _⟩ => show 512 ≤ 512 * 1 + 1 * (y 1).val ∧ 512 * 1 + 1 * (y 1).val < 512 + 512; omega

/-- info: 'Cert.KernelIdeal.Regions.read_chunk_acc_writes_both' depends on axioms: [propext, Classical.choice, Quot.sound] -/
#guard_msgs in #print axioms read_chunk_acc_writes_both

/-- info: 'Cert.KernelIdeal.Regions.read_chunk_acc_writes_first' depends on axioms: [propext, Classical.choice, Quot.sound] -/
#guard_msgs in #print axioms read_chunk_acc_writes_first

end Cert.KernelIdeal.Regions

end
-- ==== Proof.AccHalves.lean ====
/-
  The partial product while its left-half chunks are lent out: the second half store and the load before it, made over
  the 32 right-half chunks held one by one; and a chunk of the stored buffer named by what its device sends.
-/
import proofs.«900438_g7700000000000439_dist_gemm_ar_m1024_k1024_n1024_f32_gelu_v7x_i32_1_alg».proof.Proof.LoadPieces
import proofs.«900438_g7700000000000439_dist_gemm_ar_m1024_k1024_n1024_f32_gelu_v7x_i32_1_alg».proof.Proof.PartialProductChunks

noncomputable section

namespace Cert.KernelIdeal.Regions

open Cert.KernelIdeal Cert.KernelIdeal.Gen Cert.KernelIdeal.AllReduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix4 eq_ix2)

section Generic
variable {nD : Nat} {τ : Topo} {sig : RefSig} {Ix : Type} [DecidableEq Ix]
variable {Val : EltTy → Type} {Name : Type} [DecidableEq Name]
variable {U : Type} [URA U] {Lvl : Type} {Λ : Labels}
local notation "𝕄" => MT nD τ sig Ix Val Name U Lvl
variable [Preorder Lvl] {defs : Defs nD τ sig Val Λ} (𝒱 : Variants) (c : Thread nD τ)
  (bd : Option 𝒱.V) {Γ : PendingWaitsCtx sig Ix} (E : Set Name)
variable {s : Shape} {e : EltTy}

/-- A load over pieces held at one share whose value nothing reads: the continuation must run from every value. -/
theorem wp_load_pieces_any {α : Type} {Q : α → sProp (MT nD τ sig Ix Val Name U Lvl)} {T : Type} [Fintype T] [DecidableEq T]
    {cs : CoreSpace} {m : Memref sig c.2.kind cs s e} {r : LoadRect s}
    {hl : m.view.LoadsAt r} {k : (r.shape.Idx → Val e) → Prog (TpuEff nD τ sig Val Λ c.2) α}
    (K : T → Finset (Idx (m.view.loc c))) (hd : ∀ t t', t ≠ t' → Disjoint (K t) (K t'))
    (hS : m.view.setOn r.set ⊆ Finset.univ.biUnion K) (q : PosShare TreeShare) (fs : T → Buf Val (m.view.loc c))
    (f₀ : Buf Val (m.view.loc c)) :
    (bigSep Finset.univ (fun t => m.view.loc c ↦[K t]{q} fs t) : sProp 𝕄)
      ⊢ iprop((∀ v, bigSep Finset.univ (fun t => m.view.loc c ↦[K t]{q} fs t) -∗ wp frame (wpE' defs 𝒱 c bd Γ) E (k v) Q)
        -∗ wp frame (wpE' defs 𝒱 c bd Γ) E (.op (.load m r hl) k) Q) := by
  obtain ⟨g, hg⟩ := exists_glue K hd fs f₀
  rw [bigSep_pieces_eq K hd q fs g hg]
  exact (wp_load (defs := defs) (Γ := Γ) (Q := Q) 𝒱 c bd E (m := m) (r := r) (hl := hl) (k := k) (S := Finset.univ.biUnion K) (q := q) (f := g) hS).trans
    (wand_mono_left (forall_elim (m.view.readAt Val r g)))

/-- A store over pieces held whole (at the full share) at contents of their own: afterwards piece `t` holds `gs t`, if on
    piece `t` every gluing, written, agrees with `gs t`. -/
theorem wp_store_pieces {α : Type} {Q : α → sProp (MT nD τ sig Ix Val Name U Lvl)} {T : Type} [Fintype T] [DecidableEq T]
    {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α}
    (K : T → Finset (Idx ((m.access r).loc c))) (hd : ∀ t t', t ≠ t' → Disjoint (K t) (K t'))
    (hS : (m.access r).setOn Finset.univ ⊆ Finset.univ.biUnion K)
    (fs gs : T → Buf Val ((m.access r).loc c)) (f₀ : Buf Val ((m.access r).loc c))
    (hnew : ∀ g : Buf Val ((m.access r).loc c), (∀ t, ∀ i ∈ K t, g i = fs t i) →
      ∀ t, ∀ i ∈ K t, (m.access r).write Val g w Finset.univ i = gs t i) :
    (bigSep Finset.univ (fun t => (m.access r).loc c ↦[K t]{fullShare} fs t) : sProp 𝕄)
      ⊢ iprop((bigSep Finset.univ (fun t => (m.access r).loc c ↦[K t]{fullShare} gs t) -∗ wp frame (wpE' defs 𝒱 c bd Γ) E (k ⟨⟩) Q)
        -∗ wp frame (wpE' defs 𝒱 c bd Γ) E (.op (.store m r w Finset.univ hx hm) k) Q) := by
  obtain ⟨g, hg⟩ := exists_glue K hd fs f₀
  rw [bigSep_pieces_eq K hd fullShare fs g hg,
    bigSep_pieces_eq K hd fullShare gs ((m.access r).write Val g w Finset.univ) (hnew g hg)]
  exact wp_store (defs := defs) (Γ := Γ) (Q := Q) 𝒱 c bd E (m := m) (r := r) (w := w) (Mk := Finset.univ) (hx := hx) (hm := hm) (k := k)
    (S := Finset.univ.biUnion K) (f := g) hS

end Generic

/-! ## The right half of the partial product, chunk by chunk -/

/-- Element `(r, j)` of chunk `(d, h)` of the partial product is element `(32 d + r, 512 h + j)`. -/
theorem chunk_acc_emb (d : Dev nD) (h : Fin 2) (r : Fin 32) (j : Fin 512) :
    ((chunk accM d h).view.emb (ix2 r j) : S1024x1024.Idx)
      = ix2 (⟨32 * d.val + r.val, by have := d.isLt; have := r.isLt; simp only [nD] at *; omega⟩ : Fin 1024)
          (⟨512 * h.val + j.val, by have := h.isLt; have := j.isLt; omega⟩ : Fin 1024) := by
  funext a
  refine Fin.ext ?_
  match a with
  | ⟨0, _⟩ => show 32 * d.val + 1 * r.val = 32 * d.val + r.val; omega
  | ⟨1, _⟩ => show 512 * h.val + 1 * j.val = 512 * h.val + j.val; omega

section Half1
variable {Ix : Type} [DecidableEq Ix] {Val : EltTy → Type} [∀ e, Nonempty (Val e)] {Name : Type} [DecidableEq Name] {U : Type} [URA U]
variable {Lvl : Type} [Preorder Lvl] {Λ : Labels}
variable {defs : Defs nD τ sig Val Λ} (𝒱 : Variants) (c : Dev nD) (bd : Option 𝒱.V) {Γ : PendingWaitsCtx sig Ix} (E : Set Name)
variable {α : Type} {Q : α → sProp (MT nD τ sig Ix Val Name U Lvl)}
local notation "𝕄" => MT nD τ sig Ix Val Name U Lvl

theorem access_half1_subset {off : Fin 2 → Nat} (hoff : off = ![0, 512])
    (inb : ∀ a, off a + S1024x512.size a ≤ S1024x1024.size a) :
    ((accM.access (Rect.unit (s := S1024x1024) off S1024x512.size inb)).set : Finset S1024x1024.Idx)
      ⊆ Finset.univ.biUnion fun d : Fin 32 => ((chunk accM d 1).view.set : Finset S1024x1024.Idx) := by
  subst hoff
  intro i hi
  rw [View.set_slice_whole cc0_scratch0] at hi
  have hx' := (Rect.mem_set_unit (i := i)).mp hi
  have h1 : 512 ≤ (i 1).val ∧ (i 1).val < 512 + 512 := hx' 1
  have h0 : (i 0).val < 1024 := (i 0).isLt
  refine Finset.mem_biUnion.mpr ⟨⟨(i 0).val / 32, by omega⟩, Finset.mem_univ _, ?_⟩
  exact (mem_chunk_acc_set _ _ i).mpr ⟨rfl, by show (i 1).val / 512 = 1; omega⟩

/-- THE SECOND HALF STORE: the 1024 x 512 block `P1` stored at (0, 512), the 32 right-half chunks held whole each at contents
    of its own: afterwards chunk `(d, 1)` holds the rows of row chunk `d` of `P1`. -/
theorem wp_store_acc_half1 {off : Fin 2 → Nat} (hoff : off = ![0, 512])
    {inb : ∀ a, off a + S1024x512.size a ≤ S1024x1024.size a} (P1 : S1024x512.Idx → Val .bf16)
    {hx : (accM.access (Rect.unit (s := S1024x1024) off S1024x512.size inb)).Stores Finset.univ}
    {hm : (Finset.univ : Finset (Rect.unit (s := S1024x1024) off S1024x512.size inb).shape.Idx) = Finset.univ
      ∨ ∀ a, (Rect.unit (s := S1024x1024) off S1024x512.size inb).stride a = 1}
    {k : PUnit → Prog (TpuEff nD τ sig Val Λ .tc) α}
    (fs : Fin 32 → Buf Val ((c : Thread nD τ).loc cc0_scratch0)) :
    (bigSepL places (fun d => (chunk accM d 1).view.loc (c : Thread nD τ) ↦[(chunk accM d 1).view.set]{fullShare} fs d) : sProp 𝕄)
      ⊢ iprop((bigSepL places (fun d => (chunk accM d 1).view.loc (c : Thread nD τ) ↦[(chunk accM d 1).view.set]{fullShare}
              (chunk accM d 1).view.rep (fun y => P1 (ix2 (rowOf d (y 0)) (y 1))))
            -∗ wp frame (wpE' defs 𝒱 (c : Thread nD τ) bd Γ) E (k ⟨⟩) Q)
          -∗ wp frame (wpE' defs 𝒱 (c : Thread nD τ) bd Γ) E
              (.op (.store accM (Rect.unit (s := S1024x1024) off S1024x512.size inb) P1 Finset.univ hx hm) k) Q) := by
  rw [← bigSep_univ_eq_bigSepL places places_univ places_nodup, ← bigSep_univ_eq_bigSepL places places_univ places_nodup]
  refine wp_store_pieces (defs := defs) (Γ := Γ) (Q := Q) 𝒱 (c : Thread nD τ) bd E (m := accM)
    (r := Rect.unit (s := S1024x1024) off S1024x512.size inb) (w := P1) (hx := hx) (hm := hm) (k := k) (T := Fin 32)
    (fun d => ((chunk accM d 1).view.set : Finset S1024x1024.Idx))
    (fun d d' hne => chunk_acc_disjoint (1, d) (1, d') (fun e => hne (congrArg Prod.snd e)))
    ((subset_of_eq (View.setOn_univ _)).trans (access_half1_subset hoff inb)) fs
    (fun d => (chunk accM d 1).view.rep (fun y => P1 (ix2 (rowOf d (y 0)) (y 1)))) (fs 0) ?_
  subst hoff
  intro g _ d i hi
  obtain ⟨y, -, rfl⟩ := Finset.mem_map.mp hi
  obtain ⟨r, j, rfl⟩ : ∃ (r : Fin 32) (j : Fin 512), y = ix2 r j := ⟨y 0, y 1, eq_ix2 y⟩
  have he : ((chunk accM d 1).view.emb (ix2 r j) : S1024x1024.Idx)
      = (accM.access (Rect.unit (s := S1024x1024) ![0, 512] S1024x512.size inb)).emb (ix2 (rowOf d r) j) := by
    rw [chunk_acc_emb]
    funext a
    refine Fin.ext ?_
    match a with
    | ⟨0, _⟩ => show 32 * d.val + r.val = 0 + 1 * (32 * d.val + r.val); omega
    | ⟨1, _⟩ => show 512 * 1 + j.val = 512 + 1 * j.val; omega
  have hw := View.write_emb_of_mem (v := accM.access (Rect.unit (s := S1024x1024) ![0, 512] S1024x512.size inb)) (Val := Val) g P1
    (M := Finset.univ) (x := ix2 (rowOf d r) j) (Finset.mem_univ _)
  have hrep := View.rep_emb (chunk accM d 1).view (fun y => P1 (ix2 (rowOf d (y 0)) (y 1))) (ix2 r j)
  exact ((congrArg (View.write Val (accM.access (Rect.unit (s := S1024x1024) ![0, 512] S1024x512.size inb)) g P1 Finset.univ) he).trans hw).trans
    (((cast_eq _ _).trans (cast_eq _ _).symm).trans hrep.symm)

/-- The load before it (its value is not read): the continuation runs from every value. -/
theorem wp_load_acc_half1_any {off : Fin 2 → Nat} (hoff : off = ![0, 512])
    {inb : ∀ a, off a + S1024x512.size a ≤ S1024x1024.size a}
    {hl : accM.view.LoadsAt (Rect.unit (s := S1024x1024) off S1024x512.size inb).toLoadRect}
    {k : ((Rect.unit (s := S1024x1024) off S1024x512.size inb).toLoadRect.shape.Idx → Val .bf16) → Prog (TpuEff nD τ sig Val Λ .tc) α}
    (q : PosShare TreeShare) (fs : Fin 32 → Buf Val ((c : Thread nD τ).loc cc0_scratch0)) :
    (bigSepL places (fun d => (chunk accM d 1).view.loc (c : Thread nD τ) ↦[(chunk accM d 1).view.set]{q} fs d) : sProp 𝕄)
      ⊢ iprop((∀ v, bigSepL places (fun d => (chunk accM d 1).view.loc (c : Thread nD τ) ↦[(chunk accM d 1).view.set]{q} fs d)
            -∗ wp frame (wpE' defs 𝒱 (c : Thread nD τ) bd Γ) E (k v) Q)
          -∗ wp frame (wpE' defs 𝒱 (c : Thread nD τ) bd Γ) E
              (.op (.load accM (Rect.unit (s := S1024x1024) off S1024x512.size inb).toLoadRect hl) k) Q) := by
  rw [← bigSep_univ_eq_bigSepL places places_univ places_nodup]
  refine wp_load_pieces_any (defs := defs) (Γ := Γ) (Q := Q) 𝒱 (c : Thread nD τ) bd E (m := accM)
    (r := (Rect.unit (s := S1024x1024) off S1024x512.size inb).toLoadRect) (hl := hl) (k := k) (T := Fin 32)
    (fun d => ((chunk accM d 1).view.set : Finset S1024x1024.Idx))
    (fun d d' hne => chunk_acc_disjoint (1, d) (1, d') (fun e => hne (congrArg Prod.snd e))) ?_ q fs (fs 0)
  have := access_half1_subset hoff inb
  rwa [View.set_slice] at this

end Half1

/-! ## A chunk of the stored partial product is what its device sends -/

section Sent
variable {F : FTy → Type} [FloatOps F]
variable {Ix : Type} [DecidableEq Ix] {Name : Type} [DecidableEq Name] {U : Type} [URA U] {Lvl : Type}
local notation "𝕄" => MT nD τ sig Ix (Elt F) Name U Lvl

theorem sent_zero (m : (ℓ : Loc nD τ sig) → Buf (Elt F) ℓ) (c d : Dev nD) :
    sent m c d 0 = fun y => k0_pay3 (xIn m c) (wIn m c) (ix2 (rowOf d (y 0)) (y 1)) := by
  unfold sent part
  rw [if_pos rfl]

theorem sent_one (m : (ℓ : Loc nD τ sig) → Buf (Elt F) ℓ) (c d : Dev nD) :
    sent m c d 1 = fun y => k0_pay5 (k0_pay1 (xIn m c)) (k0_pay2 (wIn m c)) (ix2 (rowOf d (y 0)) (y 1)) := by
  unfold sent part
  rw [if_neg (by decide)]

/-- After the first half store, chunk `(d, 0)` held at the buffer's contents is held at what `c` sends `d`, half 0. -/
theorem acc_chunk_first_eq_sent (m : (ℓ : Loc nD τ sig) → Buf (Elt F) ℓ) (c d : Dev nD) (q : PosShare TreeShare)
    (f : Buf (Elt F) ((c : Thread nD τ).loc cc0_scratch0))
    (inb0 : ∀ a, (![0, 0] : Fin 2 → Nat) a + S1024x512.size a ≤ S1024x1024.size a) :
    ((chunk accM d 0).view.loc (c : Thread nD τ) ↦[(chunk accM d 0).view.set]{q}
        accM.view.writes (Elt F) f [⟨Rect.unit (s := S1024x1024) ![0, 0] S1024x512.size inb0, k0_pay3 (xIn m c) (wIn m c)⟩] : sProp 𝕄)
      = ((chunk accM d 0).view.loc (c : Thread nD τ) ↦[(chunk accM d 0).view.set]{q} (chunk accM d 0).view.rep (sent m c d 0)) := by
  refine pointsTo_congr fun i hi => ?_
  obtain ⟨y, -, rfl⟩ := Finset.mem_map.mp hi
  refine Eq.symm ((View.rep_emb (chunk accM d 0).view (sent m c d 0) y).trans ((cast_eq _ _).trans ?_))
  have hr := congrFun (read_chunk_acc_writes_first f (k0_pay3 (xIn m c) (wIn m c)) inb0 d) y
  rw [sent_zero]
  exact hr.symm.trans ((View.read_apply _ _).trans (cast_eq _ _))

/-- After both half stores, chunk `(d, h)` held at the buffer's contents is held at what `c` sends `d`, half `h`. -/
theorem acc_chunk_both_eq_sent (m : (ℓ : Loc nD τ sig) → Buf (Elt F) ℓ) (c d : Dev nD) (h : Fin 2) (q : PosShare TreeShare)
    (f : Buf (Elt F) ((c : Thread nD τ).loc cc0_scratch0))
    (inb0 : ∀ a, (![0, 0] : Fin 2 → Nat) a + S1024x512.size a ≤ S1024x1024.size a)
    (inb1 : ∀ a, (![0, 512] : Fin 2 → Nat) a + S1024x512.size a ≤ S1024x1024.size a) :
    ((chunk accM d h).view.loc (c : Thread nD τ) ↦[(chunk accM d h).view.set]{q}
        accM.view.writes (Elt F) f [⟨Rect.unit (s := S1024x1024) ![0, 512] S1024x512.size inb1, k0_pay5 (k0_pay1 (xIn m c)) (k0_pay2 (wIn m c))⟩,
          ⟨Rect.unit (s := S1024x1024) ![0, 0] S1024x512.size inb0, k0_pay3 (xIn m c) (wIn m c)⟩] : sProp 𝕄)
      = ((chunk accM d h).view.loc (c : Thread nD τ) ↦[(chunk accM d h).view.set]{q} (chunk accM d h).view.rep (sent m c d h)) := by
  refine pointsTo_congr fun i hi => ?_
  obtain ⟨y, -, rfl⟩ := Finset.mem_map.mp hi
  refine Eq.symm ((View.rep_emb (chunk accM d h).view (sent m c d h) y).trans ((cast_eq _ _).trans ?_))
  have hr := congrFun (read_chunk_acc_writes_both f (k0_pay3 (xIn m c) (wIn m c)) (k0_pay5 (k0_pay1 (xIn m c)) (k0_pay2 (wIn m c))) inb0 inb1 d h) y
  have hs : sent m c d h y = (if h = 0 then k0_pay3 (xIn m c) (wIn m c) else k0_pay5 (k0_pay1 (xIn m c)) (k0_pay2 (wIn m c))) (ix2 (rowOf d (y 0)) (y 1)) := rfl
  rw [hs]
  exact hr.symm.trans ((View.read_apply _ _).trans (cast_eq _ _))

end Sent

/-- info: 'Cert.KernelIdeal.Regions.acc_chunk_both_eq_sent' depends on axioms: [propext, Classical.choice, Quot.sound] -/
#guard_msgs in #print axioms acc_chunk_both_eq_sent

/-- info: 'Cert.KernelIdeal.Regions.acc_chunk_first_eq_sent' depends on axioms: [propext, Classical.choice, Quot.sound] -/
#guard_msgs in #print axioms acc_chunk_first_eq_sent

/-- info: 'Cert.KernelIdeal.Regions.wp_store_acc_half1' depends on axioms: [propext, Classical.choice, Quot.sound] -/
#guard_msgs in #print axioms wp_store_acc_half1

/-- info: 'Cert.KernelIdeal.Regions.wp_load_acc_half1_any' depends on axioms: [propext, Classical.choice, Quot.sound] -/
#guard_msgs in #print axioms wp_load_acc_half1_any

end Cert.KernelIdeal.Regions

end
-- ==== Proof.AccCut.lean ====
/-
  The partial product after its first half store, cut for the reduce copies: its 32 left-half chunks, numbered by the
  offset of the device they go to, each at what is sent there, beside its 32 right-half chunks.
-/
import proofs.«900438_g7700000000000439_dist_gemm_ar_m1024_k1024_n1024_f32_gelu_v7x_i32_1_alg».proof.Proof.AccHalves

noncomputable section

namespace Cert.KernelIdeal.Regions

open Cert.KernelIdeal Cert.KernelIdeal.Gen Cert.KernelIdeal.AllReduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2)

theorem fwd_back : ∀ (c d : Dev nD), fwd c ⟨(d.val + 32 - c.val) % 32, Nat.mod_lt _ (by decide)⟩ = d := by decide +kernel

/-- Row chunk number of piece `(h, j)`: for the left half, the device `j` places on; for the right half, `j`. -/
def cutChunk (c : Dev nD) (p : Fin 2 × Fin 32) : Dev nD := if p.1 = 0 then fwd c p.2 else p.2

theorem cutChunk_inj (c : Dev nD) (p p' : Fin 2 × Fin 32) (h1 : p.1 = p'.1) (h2 : cutChunk c p = cutChunk c p') : p = p' := by
  obtain ⟨a, b⟩ := p
  obtain ⟨a', b'⟩ := p'
  simp only at h1
  subst h1
  unfold cutChunk at h2
  by_cases ha : a = 0
  · simp only [ha, if_true] at h2
    exact Prod.ext rfl (fwd_inj c _ _ h2)
  · simp only [ha, if_false] at h2
    exact Prod.ext rfl h2

section Cut
variable {Ix : Type} [DecidableEq Ix] {Val : EltTy → Type} {Name : Type} [DecidableEq Name] {U : Type} [URA U] {Lvl : Type}
local notation "𝕄" => MT nD τ sig Ix Val Name U Lvl

/-- The partial product held whole is its left-half chunks by offset beside its right-half chunks by number. -/
theorem acc_eq_halves (c : Dev nD) (q : PosShare TreeShare) (f : Buf Val ((c : Thread nD τ).loc cc0_scratch0)) :
    ((c : Thread nD τ).loc cc0_scratch0 ↦{q} f : sProp 𝕄)
      = iprop(bigSepL places (fun k => (chunk accM (fwd c k) 0).view.loc (c : Thread nD τ) ↦[(chunk accM (fwd c k) 0).view.set]{q} f)
          ∗ bigSepL places (fun d => (chunk accM d 1).view.loc (c : Thread nD τ) ↦[(chunk accM d 1).view.set]{q} f)) := by
  have e := pointsTo_univ_eq_bigSep (Ix := Ix) (Name := Name) (U := U) (Lvl := Lvl) (ℓ := (c : Thread nD τ).loc cc0_scratch0) (T := Fin 2 × Fin 32)
    (fun p => ((chunk accM (cutChunk c p) p.1).view.set : Finset S1024x1024.Idx))
    (fun p p' hne => chunk_acc_disjoint (p.1, cutChunk c p) (p'.1, cutChunk c p') (fun e => hne
      (cutChunk_inj c p p' (Prod.mk.inj e).1 (Prod.mk.inj e).2)))
    (fun i => by
      have h0 : (i 0).val < 1024 := (i 0).isLt
      have h1 : (i 1).val < 1024 := (i 1).isLt
      by_cases hh : (i 1).val < 512
      · have hd : (i 0).val / 32 < nD := by simp only [nD]; omega
        have hb := fwd_back c ⟨(i 0).val / 32, hd⟩
        have hm : i ∈ ((chunk accM (⟨(i 0).val / 32, hd⟩ : Dev nD) 0).view.set : Finset S1024x1024.Idx) :=
          (mem_chunk_acc_set _ _ i).mpr ⟨rfl, by show (i 1).val / 512 = 0; omega⟩
        rw [← hb] at hm
        exact ⟨((0 : Fin 2), ⟨(((i 0).val / 32) + 32 - c.val) % 32, Nat.mod_lt _ (by decide)⟩), hm⟩
      · have hd : (i 0).val / 32 < 32 := by omega
        have hm : i ∈ ((chunk accM (⟨(i 0).val / 32, hd⟩ : Dev nD) 1).view.set : Finset S1024x1024.Idx) :=
          (mem_chunk_acc_set _ _ i).mpr ⟨rfl, by show (i 1).val / 512 = 1; omega⟩
        exact ⟨((1 : Fin 2), ⟨(i 0).val / 32, hd⟩), hm⟩) q f
  rw [e, bigSep_univ_prod, bigSep_fin_two, ← bigSep_univ_eq_bigSepL places places_univ places_nodup,
    ← bigSep_univ_eq_bigSepL places places_univ places_nodup]
  rfl

end Cut

section Sent
variable {F : FTy → Type} [FloatOps F]
variable {Ix : Type} [DecidableEq Ix] {Name : Type} [DecidableEq Name] {U : Type} [URA U] {Lvl : Type}
local notation "𝕄" => MT nD τ sig Ix (Elt F) Name U Lvl

/-- After the first half store: the left-half chunks each at what `c` sends the device `k` places on, the right-half chunks at
    the buffer's contents. -/
theorem acc_cut_after_first (m : (ℓ : Loc nD τ sig) → Buf (Elt F) ℓ) (c : Dev nD) (q : PosShare TreeShare)
    (f : Buf (Elt F) ((c : Thread nD τ).loc cc0_scratch0))
    (inb0 : ∀ a, (![0, 0] : Fin 2 → Nat) a + S1024x512.size a ≤ S1024x1024.size a) :
    ((c : Thread nD τ).loc cc0_scratch0 ↦{q}
        accM.view.writes (Elt F) f [⟨Rect.unit (s := S1024x1024) ![0, 0] S1024x512.size inb0, k0_pay3 (xIn m c) (wIn m c)⟩] : sProp 𝕄)
      = iprop(bigSepL places (fun k => (chunk accM (fwd c k) 0).view.loc (c : Thread nD τ) ↦[(chunk accM (fwd c k) 0).view.set]{q}
              (chunk accM (fwd c k) 0).view.rep (sent m c (fwd c k) 0))
          ∗ bigSepL places (fun d => (chunk accM d 1).view.loc (c : Thread nD τ) ↦[(chunk accM d 1).view.set]{q}
              accM.view.writes (Elt F) f [⟨Rect.unit (s := S1024x1024) ![0, 0] S1024x512.size inb0, k0_pay3 (xIn m c) (wIn m c)⟩])) := by
  refine (acc_eq_halves (Ix := Ix) (Name := Name) (U := U) (Lvl := Lvl) c q _).trans ?_
  have e1 : (bigSepL places (fun k => (chunk accM (fwd c k) 0).view.loc (c : Thread nD τ) ↦[(chunk accM (fwd c k) 0).view.set]{q}
        accM.view.writes (Elt F) f [⟨Rect.unit (s := S1024x1024) ![0, 0] S1024x512.size inb0, k0_pay3 (xIn m c) (wIn m c)⟩]) : sProp 𝕄)
      = bigSepL places (fun k => (chunk accM (fwd c k) 0).view.loc (c : Thread nD τ) ↦[(chunk accM (fwd c k) 0).view.set]{q}
          (chunk accM (fwd c k) 0).view.rep (sent m c (fwd c k) 0)) := by
    rw [← bigSep_univ_eq_bigSepL places places_univ places_nodup, ← bigSep_univ_eq_bigSepL places places_univ places_nodup]
    exact bigSep_congr fun k _ => acc_chunk_first_eq_sent m c (fwd c k) q f inb0
  rw [e1]

end Sent

/-- info: 'Cert.KernelIdeal.Regions.acc_cut_after_first' depends on axioms: [propext, Classical.choice, Quot.sound] -/
#guard_msgs in #print axioms acc_cut_after_first

end Cert.KernelIdeal.Regions

end
-- ==== Proof.BodyValues.lean ====
/-
  What the body's own loads read and what its own stores leave, named: the staged slabs read whole, the own row chunk
  of the partial product read after the first half store, and a slot after a block is stored into it.
-/
import proofs.«900438_g7700000000000439_dist_gemm_ar_m1024_k1024_n1024_f32_gelu_v7x_i32_1_alg».proof.Proof.OwnPieces
import proofs.«900438_g7700000000000439_dist_gemm_ar_m1024_k1024_n1024_f32_gelu_v7x_i32_1_alg».proof.Proof.AccHalves

noncomputable section

namespace Cert.KernelIdeal.Regions

open Cert.KernelIdeal Cert.KernelIdeal.Gen Cert.KernelIdeal.AllReduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2)

theorem zeros2 : (![0, 0] : Fin 2 → Nat) = fun _ => 0 := funext fun a => by
  match a with
  | ⟨0, _⟩ => rfl
  | ⟨1, _⟩ => rfl

section Values
variable {F : FTy → Type} [FloatOps F]

/-- The left slab read whole is the slab. -/
theorem readAt_stg0 (x : Vec F S1024x32 .f32) :
    View.readAt (Elt F) (Memref.whole cc0_stg0_0).view (Rect.unit (s := S1024x32) ![0, 0] S1024x32.size inb_S1024x32_S1024x32_0_0).toLoadRect x = x :=
  Memref.readAt_unit_zero (Elt F) cc0_stg0_0 zeros2 _ x

/-- The right slab read whole is the slab. -/
theorem readAt_stg1 (w : Vec F S32x1024 .f32) :
    View.readAt (Elt F) (Memref.whole cc0_stg1_0).view (Rect.unit (s := S32x1024) ![0, 0] S32x1024.size inb_S32x1024_S32x1024_0_0).toLoadRect w = w :=
  Memref.readAt_unit_zero (Elt F) cc0_stg1_0 zeros2 _ w

/-- After the first half store, the own row chunk of the partial product read back is what the device sends itself. -/
theorem readAt_acc_own_first (m : (ℓ : Loc nD τ sig) → Buf (Elt F) ℓ) (c : Dev nD) (f : accM.view.ty.Contents (Elt F))
    (inb0 : ∀ a, (![0, 0] : Fin 2 → Nat) a + S1024x512.size a ≤ S1024x1024.size a)
    {off : Fin 2 → Nat} (hoff : off = ![32 * c.val, 0]) (inb : ∀ a, off a + S32x512.size a ≤ S1024x1024.size a) :
    View.readAt (Elt F) accM.view (Rect.unit (s := S1024x1024) off S32x512.size inb).toLoadRect
        (accM.view.writes (Elt F) f [⟨Rect.unit (s := S1024x1024) ![0, 0] S1024x512.size inb0, k0_pay3 (xIn m c) (wIn m c)⟩])
      = sent m c c 0 := by
  subst hoff
  rw [sent_zero]
  exact read_chunk_acc_writes_first f (k0_pay3 (xIn m c) (wIn m c)) inb0 c

end Values

section Slots
variable {Ix : Type} [DecidableEq Ix] {Val : EltTy → Type} [∀ e, Nonempty (Val e)] {Name : Type} [DecidableEq Name] {U : Type} [URA U] {Lvl : Type}
local notation "𝕄" => MT nD τ sig Ix Val Name U Lvl

/-- A slot held at the buffer after a block was stored into it is the slot held at the block. -/
theorem slot_write_eq_rep (c : Dev nD) (h : Fin 2) (s : Fin 32) {off : Fin 4 → Nat} (hoff : off = ![h.val, s.val, 0, 0])
    (inb : ∀ a, off a + S1x1x32x512.size a ≤ S2x32x32x512.size a) (q : PosShare TreeShare)
    (f : Buf Val ((slot h s).view.loc (c : Thread nD τ))) (v : S32x512.Idx → Val .bf16) (hsc : S32x512.ShapeCasts S1x1x32x512) :
    ((slot h s).view.loc (c : Thread nD τ) ↦[(slot h s).view.set]{q}
        (bufM.access (Rect.unit (s := S2x32x32x512) off S1x1x32x512.size inb)).write Val f (shapeCast S1x1x32x512 v hsc) Finset.univ : sProp 𝕄)
      = ((slot h s).view.loc (c : Thread nD τ) ↦[(slot h s).view.set]{q} (slot h s).view.rep v) := by
  refine (pointsTo_congr fun i hi => ?_).symm
  obtain ⟨y, -, rfl⟩ := Finset.mem_map.mp hi
  refine (View.rep_emb (slot h s).view v y).trans ((cast_eq _ _).trans ?_)
  have hr := congrFun (read_slot_write h s hoff inb f v hsc) y
  exact hr.symm.trans ((View.read_apply _ _).trans (cast_eq _ _))

/-- A row chunk of the gather buffer held at the buffer after a block was stored into it is the chunk held at the block. -/
theorem chunk_out_write_eq_rep (c : Dev nD) (d : Dev nD) (h : Fin 2) {off : Fin 2 → Nat} (hoff : off = ![32 * d.val, 512 * h.val])
    (inb : ∀ a, off a + S32x512.size a ≤ S1024x1024.size a) (q : PosShare TreeShare)
    (f : Buf Val ((chunk outM d h).view.loc (c : Thread nD τ))) (w : S32x512.Idx → Val .bf16) :
    ((chunk outM d h).view.loc (c : Thread nD τ) ↦[(chunk outM d h).view.set]{q}
        (outM.access (Rect.unit (s := S1024x1024) off S32x512.size inb)).write Val f w Finset.univ : sProp 𝕄)
      = ((chunk outM d h).view.loc (c : Thread nD τ) ↦[(chunk outM d h).view.set]{q} (chunk outM d h).view.rep w) := by
  refine (pointsTo_congr fun i hi => ?_).symm
  obtain ⟨y, -, rfl⟩ := Finset.mem_map.mp hi
  refine (View.rep_emb (chunk outM d h).view w y).trans ((cast_eq _ _).trans ?_)
  have hr := congrFun (read_chunk_out_write d h hoff inb f w) y
  exact hr.symm.trans ((View.read_apply _ _).trans (cast_eq _ _))

/-- A row chunk of the partial product held at the buffer after a block was stored into it is the chunk held at the block. -/
theorem chunk_acc_write_eq_rep (c : Dev nD) (d : Dev nD) (h : Fin 2) {off : Fin 2 → Nat} (hoff : off = ![32 * d.val, 512 * h.val])
    (inb : ∀ a, off a + S32x512.size a ≤ S1024x1024.size a) (q : PosShare TreeShare)
    (f : Buf Val ((chunk accM d h).view.loc (c : Thread nD τ))) (w : S32x512.Idx → Val .bf16) :
    ((chunk accM d h).view.loc (c : Thread nD τ) ↦[(chunk accM d h).view.set]{q}
        (accM.access (Rect.unit (s := S1024x1024) off S32x512.size inb)).write Val f w Finset.univ : sProp 𝕄)
      = ((chunk accM d h).view.loc (c : Thread nD τ) ↦[(chunk accM d h).view.set]{q} (chunk accM d h).view.rep w) := by
  refine (pointsTo_congr fun i hi => ?_).symm
  obtain ⟨y, -, rfl⟩ := Finset.mem_map.mp hi
  refine (View.rep_emb (chunk accM d h).view w y).trans ((cast_eq _ _).trans ?_)
  have hr := congrFun (read_chunk_acc_write d h hoff inb f w) y
  exact hr.symm.trans ((View.read_apply _ _).trans (cast_eq _ _))

end Slots

section Pays
variable {F : FTy → Type} [FloatOps F]
variable {Ix : Type} [DecidableEq Ix] {Name : Type} [DecidableEq Name] {U : Type} [URA U] {Lvl : Type}
local notation "𝕄" => MT nD τ sig Ix (Elt F) Name U Lvl

/-- The own slot of half 0 after the body's store of a row chunk into it. -/
theorem slot_pay4_eq_rep (c : Dev nD) (h : Fin 2) (s : Fin 32) {off : Fin 4 → Nat} (hoff : off = ![h.val, s.val, 0, 0])
    (inb : ∀ a, off a + S1x1x32x512.size a ≤ S2x32x32x512.size a) (q : PosShare TreeShare)
    (f : Buf (Elt F) ((slot h s).view.loc (c : Thread nD τ))) (v : Vec F S32x512 .bf16) :
    ((slot h s).view.loc (c : Thread nD τ) ↦[(slot h s).view.set]{q}
        (bufM.access (Rect.unit (s := S2x32x32x512) off S1x1x32x512.size inb)).write (Elt F) f (k0_pay4 v) Finset.univ : sProp 𝕄)
      = ((slot h s).view.loc (c : Thread nD τ) ↦[(slot h s).view.set]{q} (slot h s).view.rep v) :=
  slot_write_eq_rep c h s hoff inb q f v shapeCasts_S32x512_S1x1x32x512

/-- The own slot of half 1 likewise. -/
theorem slot_pay6_eq_rep (c : Dev nD) (h : Fin 2) (s : Fin 32) {off : Fin 4 → Nat} (hoff : off = ![h.val, s.val, 0, 0])
    (inb : ∀ a, off a + S1x1x32x512.size a ≤ S2x32x32x512.size a) (q : PosShare TreeShare)
    (f : Buf (Elt F) ((slot h s).view.loc (c : Thread nD τ))) (v : Vec F S32x512 .bf16) :
    ((slot h s).view.loc (c : Thread nD τ) ↦[(slot h s).view.set]{q}
        (bufM.access (Rect.unit (s := S2x32x32x512) off S1x1x32x512.size inb)).write (Elt F) f (k0_pay6 v) Finset.univ : sProp 𝕄)
      = ((slot h s).view.loc (c : Thread nD τ) ↦[(slot h s).view.set]{q} (slot h s).view.rep v) :=
  slot_write_eq_rep c h s hoff inb q f v shapeCasts_S32x512_S1x1x32x512

end Pays

/-- info: 'Cert.KernelIdeal.Regions.chunk_out_write_eq_rep' depends on axioms: [propext, Classical.choice, Quot.sound] -/
#guard_msgs in #print axioms chunk_out_write_eq_rep

/-- info: 'Cert.KernelIdeal.Regions.chunk_acc_write_eq_rep' depends on axioms: [propext, Classical.choice, Quot.sound] -/
#guard_msgs in #print axioms chunk_acc_write_eq_rep

/-- info: 'Cert.KernelIdeal.Regions.slot_write_eq_rep' depends on axioms: [propext, Classical.choice, Quot.sound] -/
#guard_msgs in #print axioms slot_write_eq_rep

/-- info: 'Cert.KernelIdeal.Regions.readAt_acc_own_first' depends on axioms: [propext, Classical.choice, Quot.sound] -/
#guard_msgs in #print axioms readAt_acc_own_first

end Cert.KernelIdeal.Regions

end
-- ==== Proof.Chains.lean ====
/-
  A bundle over the 32 places, or over the 31 offsets, written out as the chain of its members.
-/
import proofs.«900438_g7700000000000439_dist_gemm_ar_m1024_k1024_n1024_f32_gelu_v7x_i32_1_alg».proof.Proof.LoadPieces

noncomputable section

namespace Cert.KernelIdeal.Regions

open Cert.KernelIdeal Cert.KernelIdeal.AllReduce
open Idealize.SL Idealize.SL.BI
open scoped Idealize.SL.BI
open Idealize.SL.BI.BIBase Idealize.SL.BI.Laws

variable {M : Type _} [Idealize.SL.RA.URA M]

theorem places_chain (Φ : Fin 32 → sProp M) : bigSepL places Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := rfl

theorem ks_chain (Φ : Fin 32 → sProp M) : bigSepL ks Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := rfl

end Cert.KernelIdeal.Regions

end
-- ==== Proof.BodyPart6.lean ====
/-
  The part of the body that ends the entry handshake: the last two signals, the first half of the partial product
  computed and stored, the own row chunk copied into the own slot, and the wait for the 31 peers' signals.  The
  partial product leaves cut for the reduce copies.
-/
import proofs.«900438_g7700000000000439_dist_gemm_ar_m1024_k1024_n1024_f32_gelu_v7x_i32_1_alg».proof.Proof.BodyTables
import proofs.«900438_g7700000000000439_dist_gemm_ar_m1024_k1024_n1024_f32_gelu_v7x_i32_1_alg».proof.Proof.BodyGlue
import proofs.«900438_g7700000000000439_dist_gemm_ar_m1024_k1024_n1024_f32_gelu_v7x_i32_1_alg».proof.Proof.OwnPieces
import proofs.«900438_g7700000000000439_dist_gemm_ar_m1024_k1024_n1024_f32_gelu_v7x_i32_1_alg».proof.Proof.AccCut
import proofs.«900438_g7700000000000439_dist_gemm_ar_m1024_k1024_n1024_f32_gelu_v7x_i32_1_alg».proof.Proof.BodyValues
import proofs.«900438_g7700000000000439_dist_gemm_ar_m1024_k1024_n1024_f32_gelu_v7x_i32_1_alg».proof.Proof.Chains
noncomputable section
namespace Cert.KernelIdeal.AllReduce
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Regions
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma duties_bar amount_bar expect_bar pay_bar_payer_30 pay_bar_payer_31 in
set_option maxHeartbeats 8000000 in
theorem part6_spec (c : Dev nD) (v2 v120 c32_i32_116 : BitVec 32) (fo : Buf (Elt F) ((c : Thread nD τ).loc cc0_scratch1)) (fb : Buf (Elt F) ((c : Thread nD τ).loc cc0_scratch2))
    (f3 : Buf (Elt F) ((c : Thread nD τ).loc cc0_scratch0)) (O : CellTallies nD τ sig Unit)
    (hmwbar : (levAts L lv : sProp 𝕄) ⊢ MayWait (c : Thread nD τ) (.reg barS) () O) (W : Waits sig Unit)
    (Q : (Σ' (v130 : FVec F S1024x32 .bf16) (v133 : FVec F S32x1024 .bf16), BitVec 32) → sProp 𝕄) :
    iprop((cellInv ER (sched m) (K (barCell (fwd c 30))) (barCell (fwd c 30)) ∗ dutyTok ER (barCell (fwd c 30)) 0 (30 : Fin 32) ∗ reached ER (barCell (fwd c 30)) 0
        ∗ reached ER (dmaCell c rsR 0 2) 0 ∗ reached ER (dmaCell c rsR 1 2) 0 ∗ reached ER (dmaCell c agR 0 2) 0 ∗ reached ER (dmaCell c agR 1 2) 0)
      ∗ ((slot 0 2).view.loc (c : Thread nD τ) ↦[(slot 0 2).view.set]{fullShare} fb)
      ∗ ((slot 1 2).view.loc (c : Thread nD τ) ↦[(slot 1 2).view.set]{fullShare} fb)
      ∗ ((chunk outM (fwd c 30) 0).view.loc (c : Thread nD τ) ↦[(chunk outM (fwd c 30) 0).view.set]{fullShare} fo)
      ∗ ((chunk outM (fwd c 30) 1).view.loc (c : Thread nD τ) ↦[(chunk outM (fwd c 30) 1).view.set]{fullShare} fo)
      ∗ (cellInv ER (sched m) (K (barCell (fwd c 31))) (barCell (fwd c 31)) ∗ dutyTok ER (barCell (fwd c 31)) 0 (31 : Fin 32) ∗ reached ER (barCell (fwd c 31)) 0
        ∗ reached ER (dmaCell c rsR 0 1) 0 ∗ reached ER (dmaCell c rsR 1 1) 0 ∗ reached ER (dmaCell c agR 0 1) 0 ∗ reached ER (dmaCell c agR 1 1) 0)
      ∗ ((slot 0 1).view.loc (c : Thread nD τ) ↦[(slot 0 1).view.set]{fullShare} fb)
      ∗ ((slot 1 1).view.loc (c : Thread nD τ) ↦[(slot 1 1).view.set]{fullShare} fb)
      ∗ ((chunk outM (fwd c 31) 0).view.loc (c : Thread nD τ) ↦[(chunk outM (fwd c 31) 0).view.set]{fullShare} fo)
      ∗ ((chunk outM (fwd c 31) 1).view.loc (c : Thread nD τ) ↦[(chunk outM (fwd c 31) 1).view.set]{fullShare} fo)
      ∗ ((Memref.whole cc0_stg0_0).view.loc (c : Thread nD τ) ↦{fullShare} xIn m c)
      ∗ ((Memref.whole cc0_stg1_0).view.loc (c : Thread nD τ) ↦{fullShare} wIn m c)
      ∗ ((Memref.whole cc0_scratch0).view.loc (c : Thread nD τ) ↦{fullShare} f3)
      ∗ ((slot 0 0).view.loc (c : Thread nD τ) ↦[(slot 0 0).view.set]{fullShare} fb)
      ∗ barRes m K c
      ∗ levAts L lv
      ∗ owes (c : Thread nD τ) (O + tallyAt (barCell (fwd c 31)) () 1 + tallyAt (barCell (fwd c 30)) () 1) W
      ∗ (∀ v, (((Memref.whole cc0_stg0_0).view.loc (c : Thread nD τ) ↦{fullShare} xIn m c)
        ∗ ((Memref.whole cc0_stg1_0).view.loc (c : Thread nD τ) ↦{fullShare} wIn m c)
        ∗ ((chunk accM (fwd c 0) 0).view.loc (c : Thread nD τ) ↦[(chunk accM (fwd c 0) 0).view.set]{fullShare} (chunk accM (fwd c 0) 0).view.rep (sent m c (fwd c 0) 0))
        ∗ ((chunk accM (fwd c 1) 0).view.loc (c : Thread nD τ) ↦[(chunk accM (fwd c 1) 0).view.set]{fullShare} (chunk accM (fwd c 1) 0).view.rep (sent m c (fwd c 1) 0))
        ∗ ((chunk accM (fwd c 2) 0).view.loc (c : Thread nD τ) ↦[(chunk accM (fwd c 2) 0).view.set]{fullShare} (chunk accM (fwd c 2) 0).view.rep (sent m c (fwd c 2) 0))
        ∗ ((chunk accM (fwd c 3) 0).view.loc (c : Thread nD τ) ↦[(chunk accM (fwd c 3) 0).view.set]{fullShare} (chunk accM (fwd c 3) 0).view.rep (sent m c (fwd c 3) 0))
        ∗ ((chunk accM (fwd c 4) 0).view.loc (c : Thread nD τ) ↦[(chunk accM (fwd c 4) 0).view.set]{fullShare} (chunk accM (fwd c 4) 0).view.rep (sent m c (fwd c 4) 0))
        ∗ ((chunk accM (fwd c 5) 0).view.loc (c : Thread nD τ) ↦[(chunk accM (fwd c 5) 0).view.set]{fullShare} (chunk accM (fwd c 5) 0).view.rep (sent m c (fwd c 5) 0))
        ∗ ((chunk accM (fwd c 6) 0).view.loc (c : Thread nD τ) ↦[(chunk accM (fwd c 6) 0).view.set]{fullShare} (chunk accM (fwd c 6) 0).view.rep (sent m c (fwd c 6) 0))
        ∗ ((chunk accM (fwd c 7) 0).view.loc (c : Thread nD τ) ↦[(chunk accM (fwd c 7) 0).view.set]{fullShare} (chunk accM (fwd c 7) 0).view.rep (sent m c (fwd c 7) 0))
        ∗ ((chunk accM (fwd c 8) 0).view.loc (c : Thread nD τ) ↦[(chunk accM (fwd c 8) 0).view.set]{fullShare} (chunk accM (fwd c 8) 0).view.rep (sent m c (fwd c 8) 0))
        ∗ ((chunk accM (fwd c 9) 0).view.loc (c : Thread nD τ) ↦[(chunk accM (fwd c 9) 0).view.set]{fullShare} (chunk accM (fwd c 9) 0).view.rep (sent m c (fwd c 9) 0))
        ∗ ((chunk accM (fwd c 10) 0).view.loc (c : Thread nD τ) ↦[(chunk accM (fwd c 10) 0).view.set]{fullShare} (chunk accM (fwd c 10) 0).view.rep (sent m c (fwd c 10) 0))
        ∗ ((chunk accM (fwd c 11) 0).view.loc (c : Thread nD τ) ↦[(chunk accM (fwd c 11) 0).view.set]{fullShare} (chunk accM (fwd c 11) 0).view.rep (sent m c (fwd c 11) 0))
        ∗ ((chunk accM (fwd c 12) 0).view.loc (c : Thread nD τ) ↦[(chunk accM (fwd c 12) 0).view.set]{fullShare} (chunk accM (fwd c 12) 0).view.rep (sent m c (fwd c 12) 0))
        ∗ ((chunk accM (fwd c 13) 0).view.loc (c : Thread nD τ) ↦[(chunk accM (fwd c 13) 0).view.set]{fullShare} (chunk accM (fwd c 13) 0).view.rep (sent m c (fwd c 13) 0))
        ∗ ((chunk accM (fwd c 14) 0).view.loc (c : Thread nD τ) ↦[(chunk accM (fwd c 14) 0).view.set]{fullShare} (chunk accM (fwd c 14) 0).view.rep (sent m c (fwd c 14) 0))
        ∗ ((chunk accM (fwd c 15) 0).view.loc (c : Thread nD τ) ↦[(chunk accM (fwd c 15) 0).view.set]{fullShare} (chunk accM (fwd c 15) 0).view.rep (sent m c (fwd c 15) 0))
        ∗ ((chunk accM (fwd c 16) 0).view.loc (c : Thread nD τ) ↦[(chunk accM (fwd c 16) 0).view.set]{fullShare} (chunk accM (fwd c 16) 0).view.rep (sent m c (fwd c 16) 0))
        ∗ ((chunk accM (fwd c 17) 0).view.loc (c : Thread nD τ) ↦[(chunk accM (fwd c 17) 0).view.set]{fullShare} (chunk accM (fwd c 17) 0).view.rep (sent m c (fwd c 17) 0))
        ∗ ((chunk accM (fwd c 18) 0).view.loc (c : Thread nD τ) ↦[(chunk accM (fwd c 18) 0).view.set]{fullShare} (chunk accM (fwd c 18) 0).view.rep (sent m c (fwd c 18) 0))
        ∗ ((chunk accM (fwd c 19) 0).view.loc (c : Thread nD τ) ↦[(chunk accM (fwd c 19) 0).view.set]{fullShare} (chunk accM (fwd c 19) 0).view.rep (sent m c (fwd c 19) 0))
        ∗ ((chunk accM (fwd c 20) 0).view.loc (c : Thread nD τ) ↦[(chunk accM (fwd c 20) 0).view.set]{fullShare} (chunk accM (fwd c 20) 0).view.rep (sent m c (fwd c 20) 0))
        ∗ ((chunk accM (fwd c 21) 0).view.loc (c : Thread nD τ) ↦[(chunk accM (fwd c 21) 0).view.set]{fullShare} (chunk accM (fwd c 21) 0).view.rep (sent m c (fwd c 21) 0))
        ∗ ((chunk accM (fwd c 22) 0).view.loc (c : Thread nD τ) ↦[(chunk accM (fwd c 22) 0).view.set]{fullShare} (chunk accM (fwd c 22) 0).view.rep (sent m c (fwd c 22) 0))
        ∗ ((chunk accM (fwd c 23) 0).view.loc (c : Thread nD τ) ↦[(chunk accM (fwd c 23) 0).view.set]{fullShare} (chunk accM (fwd c 23) 0).view.rep (sent m c (fwd c 23) 0))
        ∗ ((chunk accM (fwd c 24) 0).view.loc (c : Thread nD τ) ↦[(chunk accM (fwd c 24) 0).view.set]{fullShare} (chunk accM (fwd c 24) 0).view.rep (sent m c (fwd c 24) 0))
        ∗ ((chunk accM (fwd c 25) 0).view.loc (c : Thread nD τ) ↦[(chunk accM (fwd c 25) 0).view.set]{fullShare} (chunk accM (fwd c 25) 0).view.rep (sent m c (fwd c 25) 0))
        ∗ ((chunk accM (fwd c 26) 0).view.loc (c : Thread nD τ) ↦[(chunk accM (fwd c 26) 0).view.set]{fullShare} (chunk accM (fwd c 26) 0).view.rep (sent m c (fwd c 26) 0))
        ∗ ((chunk accM (fwd c 27) 0).view.loc (c : Thread nD τ) ↦[(chunk accM (fwd c 27) 0).view.set]{fullShare} (chunk accM (fwd c 27) 0).view.rep (sent m c (fwd c 27) 0))
        ∗ ((chunk accM (fwd c 28) 0).view.loc (c : Thread nD τ) ↦[(chunk accM (fwd c 28) 0).view.set]{fullShare} (chunk accM (fwd c 28) 0).view.rep (sent m c (fwd c 28) 0))
        ∗ ((chunk accM (fwd c 29) 0).view.loc (c : Thread nD τ) ↦[(chunk accM (fwd c 29) 0).view.set]{fullShare} (chunk accM (fwd c 29) 0).view.rep (sent m c (fwd c 29) 0))
        ∗ ((chunk accM (fwd c 30) 0).view.loc (c : Thread nD τ) ↦[(chunk accM (fwd c 30) 0).view.set]{fullShare} (chunk accM (fwd c 30) 0).view.rep (sent m c (fwd c 30) 0))
        ∗ ((chunk accM (fwd c 31) 0).view.loc (c : Thread nD τ) ↦[(chunk accM (fwd c 31) 0).view.set]{fullShare} (chunk accM (fwd c 31) 0).view.rep (sent m c (fwd c 31) 0))
        ∗ (bigSepL places (fun d => (chunk accM d 1).view.loc (c : Thread nD τ) ↦[(chunk accM d 1).view.set]{fullShare} accM.view.writes (Elt F) f3 [⟨Rect.unit (s := S1024x1024) ![0, 0] S1024x512.size inb_S1024x1024_S1024x512_0_0, k0_pay3 (xIn m c) (wIn m c)⟩]))
        ∗ ((slot 0 0).view.loc (c : Thread nD τ) ↦[(slot 0 0).view.set]{fullShare} (slot 0 0).view.rep (sent m (bwd c 0) c 0))
        ∗ (bigSepL ks (fun k => barGot c k))
        ∗ owes (c : Thread nD τ) (O) (insert (SemLoc.reg barS, ()) (W))) -∗ Q ⟨k0_pay1 (xIn m c), k0_pay2 (wIn m c), v⟩))
      ⊢ wp frame (wpE (defs₀ (F := F)) 𝒱₀ c none) Set.univ (k0_part6 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v120 c32_i32_116) Q := by
  unfold barRes
  iintro ⟨⟨#IB30, TB30, #RB30, #Rr0_30, #Rr1_30, #Ra0_30, #Ra1_30⟩, S0_30, S1_30, Og0_30, Og1_30, ⟨#IB31, TB31, #RB31, #Rr0_31, #Rr1_31, #Ra0_31, #Ra1_31⟩, S0_31, S1_31, Og0_31, Og1_31, Hx, Hw, Hacc, Hs00, ⟨#IBar, ABar, CBar⟩, #Hlev, HO, Hk⟩
  sl_exec_parts
  sl_unfold_run_names
  rw [readAt_stg0 (xIn m c), readAt_stg1 (wIn m c)]
  rw [readAt_acc_own_first m c f3 inb_S1024x1024_S1024x512_0_0 (k0_off1_eq c) (k0_off1_inb c)]
  have hb : sent m c c 0 = sent m (bwd c 0) c 0 := by rw [bwd_zero]
  rw [hb]
  ihave Hs00 := (Entails.of_eq (slot_pay4_eq_rep (Ix := Unit) (Name := ℕ) (U := UU) (Lvl := ℕ) c (0 : Fin 2) (0 : Fin 32) (off := ![0, 0, 0, 0]) rfl
    inb_S2x32x32x512_S1x1x32x512_0_0_0_0 fullShare fb (sent m (bwd c 0) c 0))) $$ Hs00
  ihave Hcut := (Entails.of_eq (acc_cut_after_first (Ix := Unit) (Name := ℕ) (U := UU) (Lvl := ℕ) m c fullShare f3 inb_S1024x1024_S1024x512_0_0)) $$ Hacc
  icases Hcut with ⟨Hsrc, Hright⟩
  ihave Hsrc := (Entails.of_eq (places_chain _)) $$ Hsrc
  icases Hsrc with ⟨A0, A1, A2, A3, A4, A5, A6, A7, A8, A9, A10, A11, A12, A13, A14, A15, A16, A17, A18, A19, A20, A21, A22, A23, A24, A25, A26, A27, A28, A29, A30, A31⟩
  ihave Hbg := (Entails.of_eq ((bigSep_congr (fun d _ => payload_bar m c d)).trans (bar_payloads c))) $$ ABar_pay1
  sl_step
  iapply Hk
  isplitl [Hx]; · iexact Hx
  isplitl [Hw]; · iexact Hw
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [Hright]; · iexact Hright
  isplitl [Hs00]; · iexact Hs00
  isplitl [Hbg]; · iexact Hbg
  iexact HO

/-- info: 'Cert.KernelIdeal.AllReduce.part6_spec' depends on axioms: [propext, Classical.choice, Quot.sound] -/
#guard_msgs in #print axioms part6_spec

end Cert.KernelIdeal.AllReduce

end
-- ==== Proof.Reindex.lean ====
/-
  A bundle over the 32 places read through the ring: place `k` standing for the device `k` places on.
-/
import proofs.«900438_g7700000000000439_dist_gemm_ar_m1024_k1024_n1024_f32_gelu_v7x_i32_1_alg».proof.Proof.AccHalves

noncomputable section

namespace Cert.KernelIdeal.Regions

open Cert.KernelIdeal Cert.KernelIdeal.Gen Cert.KernelIdeal.AllReduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2)

section
variable {M : Type _} [URA M]

/-- The devices `k` places on, `k = 0 … 31`, are all the devices. -/
theorem places_reindex (c : Dev nD) (Φ : Fin 32 → sProp M) : bigSepL places (fun k => Φ (fwd c k)) = bigSepL places Φ := by
  rw [← bigSep_univ_eq_bigSepL places places_univ places_nodup, ← bigSep_univ_eq_bigSepL places places_univ places_nodup]
  have hmap : (Finset.univ : Finset (Fin 32)).map ⟨fwd c, fun a b h => fwd_inj c a b h⟩ = Finset.univ :=
    Finset.eq_univ_of_card _ (by rw [Finset.card_map]; rfl)
  conv_rhs => rw [← hmap, bigSep_map]
  rfl

end

section Sent
variable {F : FTy → Type} [FloatOps F]
variable {Ix : Type} [DecidableEq Ix] {Name : Type} [DecidableEq Name] {U : Type} [URA U] {Lvl : Type}
local notation "𝕄" => MT nD τ sig Ix (Elt F) Name U Lvl

/-- The right-half chunks after the second half store, numbered by the offset of the device they go to, each at what is sent there. -/
theorem acc_right_eq_sent (m : (ℓ : Loc nD τ sig) → Buf (Elt F) ℓ) (c : Dev nD) (q : PosShare TreeShare) :
    (bigSepL places (fun d => (chunk accM d 1).view.loc (c : Thread nD τ) ↦[(chunk accM d 1).view.set]{q}
        (chunk accM d 1).view.rep (fun y => k0_pay5 (k0_pay1 (xIn m c)) (k0_pay2 (wIn m c)) (ix2 (rowOf d (y 0)) (y 1)))) : sProp 𝕄)
      = bigSepL places (fun k => (chunk accM (fwd c k) 1).view.loc (c : Thread nD τ) ↦[(chunk accM (fwd c k) 1).view.set]{q}
          (chunk accM (fwd c k) 1).view.rep (sent m c (fwd c k) 1)) := by
  rw [places_reindex c (fun d => ((chunk accM d 1).view.loc (c : Thread nD τ) ↦[(chunk accM d 1).view.set]{q}
    (chunk accM d 1).view.rep (sent m c d 1) : sProp 𝕄))]
  rw [← bigSep_univ_eq_bigSepL places places_univ places_nodup, ← bigSep_univ_eq_bigSepL places places_univ places_nodup]
  exact bigSep_congr fun d _ => by rw [sent_one]

end Sent

/-- info: 'Cert.KernelIdeal.Regions.acc_right_eq_sent' depends on axioms: [propext, Classical.choice, Quot.sound] -/
#guard_msgs in #print axioms acc_right_eq_sent

end Cert.KernelIdeal.Regions

end
-- ==== Proof.BodyPart20.lean ====
/-
  The part of the body that ends the first half's sends and computes the second half: the last two reduce copies of
  half 0 leave, the second half of the partial product is stored over the 32 right-half chunks, and those leave numbered
  by the device they go to, each at what is sent there.
-/
import proofs.«900438_g7700000000000439_dist_gemm_ar_m1024_k1024_n1024_f32_gelu_v7x_i32_1_alg».proof.Proof.BodyTables
import proofs.«900438_g7700000000000439_dist_gemm_ar_m1024_k1024_n1024_f32_gelu_v7x_i32_1_alg».proof.Proof.BodyGlue
import proofs.«900438_g7700000000000439_dist_gemm_ar_m1024_k1024_n1024_f32_gelu_v7x_i32_1_alg».proof.Proof.OwnPieces
import proofs.«900438_g7700000000000439_dist_gemm_ar_m1024_k1024_n1024_f32_gelu_v7x_i32_1_alg».proof.Proof.AccHalves
import proofs.«900438_g7700000000000439_dist_gemm_ar_m1024_k1024_n1024_f32_gelu_v7x_i32_1_alg».proof.Proof.Reindex
import proofs.«900438_g7700000000000439_dist_gemm_ar_m1024_k1024_n1024_f32_gelu_v7x_i32_1_alg».proof.Proof.Chains
noncomputable section
namespace Cert.KernelIdeal.AllReduce
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Regions
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma in
set_option maxHeartbeats 8000000 in
theorem part20_spec (c : Dev nD) (v2 v495 : BitVec 32) (f3 : Buf (Elt F) ((c : Thread nD τ).loc cc0_scratch0)) (O : CellTallies nD τ sig Unit) (W : Waits sig Unit) (Q : PUnit → sProp 𝕄) :
    iprop(copyRes m K rsS rsR c 0 30
      ∗ ((chunk accM (fwd c 30) 0).view.loc (c : Thread nD τ) ↦[(chunk accM (fwd c 30) 0).view.set]{fullShare} (chunk accM (fwd c 30) 0).view.rep (sent m c (fwd c 30) 0))
      ∗ (∃ f, ((slot 0 30).view.loc (fwd c 30 : Thread nD τ) ↦[(slot 0 30).view.set]{fullShare} f))
      ∗ copyRes m K rsS rsR c 0 31
      ∗ ((chunk accM (fwd c 31) 0).view.loc (c : Thread nD τ) ↦[(chunk accM (fwd c 31) 0).view.set]{fullShare} (chunk accM (fwd c 31) 0).view.rep (sent m c (fwd c 31) 0))
      ∗ (∃ f, ((slot 0 31).view.loc (fwd c 31 : Thread nD τ) ↦[(slot 0 31).view.set]{fullShare} f))
      ∗ (bigSepL places (fun d => (chunk accM d 1).view.loc (c : Thread nD τ) ↦[(chunk accM d 1).view.set]{fullShare} accM.view.writes (Elt F) f3 [⟨Rect.unit (s := S1024x1024) ![0, 0] S1024x512.size inb_S1024x1024_S1024x512_0_0, k0_pay3 (xIn m c) (wIn m c)⟩]))
      ∗ owes (c : Thread nD τ) (O + tallyAt (dmaCell (fwd c 31) rsR 0 31) () Nc + tallyAt (dmaCell (fwd c 30) rsR 0 30) () Nc) W
      ∗ (∀ r, (recvRes m K rsS c 0 30
        ∗ recvRes m K rsS c 0 31
        ∗ ((chunk accM (fwd c 0) 1).view.loc (c : Thread nD τ) ↦[(chunk accM (fwd c 0) 1).view.set]{fullShare} (chunk accM (fwd c 0) 1).view.rep (sent m c (fwd c 0) 1))
        ∗ ((chunk accM (fwd c 1) 1).view.loc (c : Thread nD τ) ↦[(chunk accM (fwd c 1) 1).view.set]{fullShare} (chunk accM (fwd c 1) 1).view.rep (sent m c (fwd c 1) 1))
        ∗ ((chunk accM (fwd c 2) 1).view.loc (c : Thread nD τ) ↦[(chunk accM (fwd c 2) 1).view.set]{fullShare} (chunk accM (fwd c 2) 1).view.rep (sent m c (fwd c 2) 1))
        ∗ ((chunk accM (fwd c 3) 1).view.loc (c : Thread nD τ) ↦[(chunk accM (fwd c 3) 1).view.set]{fullShare} (chunk accM (fwd c 3) 1).view.rep (sent m c (fwd c 3) 1))
        ∗ ((chunk accM (fwd c 4) 1).view.loc (c : Thread nD τ) ↦[(chunk accM (fwd c 4) 1).view.set]{fullShare} (chunk accM (fwd c 4) 1).view.rep (sent m c (fwd c 4) 1))
        ∗ ((chunk accM (fwd c 5) 1).view.loc (c : Thread nD τ) ↦[(chunk accM (fwd c 5) 1).view.set]{fullShare} (chunk accM (fwd c 5) 1).view.rep (sent m c (fwd c 5) 1))
        ∗ ((chunk accM (fwd c 6) 1).view.loc (c : Thread nD τ) ↦[(chunk accM (fwd c 6) 1).view.set]{fullShare} (chunk accM (fwd c 6) 1).view.rep (sent m c (fwd c 6) 1))
        ∗ ((chunk accM (fwd c 7) 1).view.loc (c : Thread nD τ) ↦[(chunk accM (fwd c 7) 1).view.set]{fullShare} (chunk accM (fwd c 7) 1).view.rep (sent m c (fwd c 7) 1))
        ∗ ((chunk accM (fwd c 8) 1).view.loc (c : Thread nD τ) ↦[(chunk accM (fwd c 8) 1).view.set]{fullShare} (chunk accM (fwd c 8) 1).view.rep (sent m c (fwd c 8) 1))
        ∗ ((chunk accM (fwd c 9) 1).view.loc (c : Thread nD τ) ↦[(chunk accM (fwd c 9) 1).view.set]{fullShare} (chunk accM (fwd c 9) 1).view.rep (sent m c (fwd c 9) 1))
        ∗ ((chunk accM (fwd c 10) 1).view.loc (c : Thread nD τ) ↦[(chunk accM (fwd c 10) 1).view.set]{fullShare} (chunk accM (fwd c 10) 1).view.rep (sent m c (fwd c 10) 1))
        ∗ ((chunk accM (fwd c 11) 1).view.loc (c : Thread nD τ) ↦[(chunk accM (fwd c 11) 1).view.set]{fullShare} (chunk accM (fwd c 11) 1).view.rep (sent m c (fwd c 11) 1))
        ∗ ((chunk accM (fwd c 12) 1).view.loc (c : Thread nD τ) ↦[(chunk accM (fwd c 12) 1).view.set]{fullShare} (chunk accM (fwd c 12) 1).view.rep (sent m c (fwd c 12) 1))
        ∗ ((chunk accM (fwd c 13) 1).view.loc (c : Thread nD τ) ↦[(chunk accM (fwd c 13) 1).view.set]{fullShare} (chunk accM (fwd c 13) 1).view.rep (sent m c (fwd c 13) 1))
        ∗ ((chunk accM (fwd c 14) 1).view.loc (c : Thread nD τ) ↦[(chunk accM (fwd c 14) 1).view.set]{fullShare} (chunk accM (fwd c 14) 1).view.rep (sent m c (fwd c 14) 1))
        ∗ ((chunk accM (fwd c 15) 1).view.loc (c : Thread nD τ) ↦[(chunk accM (fwd c 15) 1).view.set]{fullShare} (chunk accM (fwd c 15) 1).view.rep (sent m c (fwd c 15) 1))
        ∗ ((chunk accM (fwd c 16) 1).view.loc (c : Thread nD τ) ↦[(chunk accM (fwd c 16) 1).view.set]{fullShare} (chunk accM (fwd c 16) 1).view.rep (sent m c (fwd c 16) 1))
        ∗ ((chunk accM (fwd c 17) 1).view.loc (c : Thread nD τ) ↦[(chunk accM (fwd c 17) 1).view.set]{fullShare} (chunk accM (fwd c 17) 1).view.rep (sent m c (fwd c 17) 1))
        ∗ ((chunk accM (fwd c 18) 1).view.loc (c : Thread nD τ) ↦[(chunk accM (fwd c 18) 1).view.set]{fullShare} (chunk accM (fwd c 18) 1).view.rep (sent m c (fwd c 18) 1))
        ∗ ((chunk accM (fwd c 19) 1).view.loc (c : Thread nD τ) ↦[(chunk accM (fwd c 19) 1).view.set]{fullShare} (chunk accM (fwd c 19) 1).view.rep (sent m c (fwd c 19) 1))
        ∗ ((chunk accM (fwd c 20) 1).view.loc (c : Thread nD τ) ↦[(chunk accM (fwd c 20) 1).view.set]{fullShare} (chunk accM (fwd c 20) 1).view.rep (sent m c (fwd c 20) 1))
        ∗ ((chunk accM (fwd c 21) 1).view.loc (c : Thread nD τ) ↦[(chunk accM (fwd c 21) 1).view.set]{fullShare} (chunk accM (fwd c 21) 1).view.rep (sent m c (fwd c 21) 1))
        ∗ ((chunk accM (fwd c 22) 1).view.loc (c : Thread nD τ) ↦[(chunk accM (fwd c 22) 1).view.set]{fullShare} (chunk accM (fwd c 22) 1).view.rep (sent m c (fwd c 22) 1))
        ∗ ((chunk accM (fwd c 23) 1).view.loc (c : Thread nD τ) ↦[(chunk accM (fwd c 23) 1).view.set]{fullShare} (chunk accM (fwd c 23) 1).view.rep (sent m c (fwd c 23) 1))
        ∗ ((chunk accM (fwd c 24) 1).view.loc (c : Thread nD τ) ↦[(chunk accM (fwd c 24) 1).view.set]{fullShare} (chunk accM (fwd c 24) 1).view.rep (sent m c (fwd c 24) 1))
        ∗ ((chunk accM (fwd c 25) 1).view.loc (c : Thread nD τ) ↦[(chunk accM (fwd c 25) 1).view.set]{fullShare} (chunk accM (fwd c 25) 1).view.rep (sent m c (fwd c 25) 1))
        ∗ ((chunk accM (fwd c 26) 1).view.loc (c : Thread nD τ) ↦[(chunk accM (fwd c 26) 1).view.set]{fullShare} (chunk accM (fwd c 26) 1).view.rep (sent m c (fwd c 26) 1))
        ∗ ((chunk accM (fwd c 27) 1).view.loc (c : Thread nD τ) ↦[(chunk accM (fwd c 27) 1).view.set]{fullShare} (chunk accM (fwd c 27) 1).view.rep (sent m c (fwd c 27) 1))
        ∗ ((chunk accM (fwd c 28) 1).view.loc (c : Thread nD τ) ↦[(chunk accM (fwd c 28) 1).view.set]{fullShare} (chunk accM (fwd c 28) 1).view.rep (sent m c (fwd c 28) 1))
        ∗ ((chunk accM (fwd c 29) 1).view.loc (c : Thread nD τ) ↦[(chunk accM (fwd c 29) 1).view.set]{fullShare} (chunk accM (fwd c 29) 1).view.rep (sent m c (fwd c 29) 1))
        ∗ ((chunk accM (fwd c 30) 1).view.loc (c : Thread nD τ) ↦[(chunk accM (fwd c 30) 1).view.set]{fullShare} (chunk accM (fwd c 30) 1).view.rep (sent m c (fwd c 30) 1))
        ∗ ((chunk accM (fwd c 31) 1).view.loc (c : Thread nD τ) ↦[(chunk accM (fwd c 31) 1).view.set]{fullShare} (chunk accM (fwd c 31) 1).view.rep (sent m c (fwd c 31) 1))
        ∗ owes (c : Thread nD τ) (O) (W)) -∗ Q r))
      ⊢ wp frame (wpE (defs₀ (F := F)) 𝒱₀ c none) Set.univ (k0_part20 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (k0_pay1 (xIn m c)) (k0_pay2 (wIn m c)) v495) Q := by
  unfold copyRes recvRes
  iintro ⟨⟨#IS30, TS30, #RS30, AS30, #ID30, TD30, #RD30⟩, Src30, ⟨%g30, Dst30⟩, ⟨#IS31, TS31, #RS31, AS31, #ID31, TD31, #RD31⟩, Src31, ⟨%g31, Dst31⟩, Hright, HO, Hk⟩
  sl_exec_parts (disch := simp only [dev61_eq, dev62_eq])
  iapply (wp_send_rs m K c (0 : Fin 2) (30 : Fin 32) (by decide) g30 W (O + tallyAt (dmaCell (fwd c 31) rsR 0 31) () Nc + tallyAt (dmaCell (fwd c 30) rsR 0 30) () Nc) (O + tallyAt (dmaCell (fwd c 31) rsR 0 31) () Nc) rfl) $$ [Src30 Dst30 HO TS30 TD30]
  · isplitr; · iexact IS30
    isplitr; · iexact ID30
    isplitl [Src30]; · iexact Src30
    isplitl [Dst30]; · iexact Dst30
    isplitl [HO]; · iexact HO
    isplitl [TS30]; · iexact TS30
    isplitr; · iexact RS30
    isplitl [TD30]; · iexact TD30
    iexact RD30
  iintro ⟨C30, HO⟩
  sl_exec_parts (disch := simp only [dev61_eq, dev62_eq])
  iapply (wp_send_rs m K c (0 : Fin 2) (31 : Fin 32) (by decide) g31 W (O + tallyAt (dmaCell (fwd c 31) rsR 0 31) () Nc) O rfl) $$ [Src31 Dst31 HO TS31 TD31]
  · isplitr; · iexact IS31
    isplitr; · iexact ID31
    isplitl [Src31]; · iexact Src31
    isplitl [Dst31]; · iexact Dst31
    isplitl [HO]; · iexact HO
    isplitl [TS31]; · iexact TS31
    isplitr; · iexact RS31
    isplitl [TD31]; · iexact TD31
    iexact RD31
  iintro ⟨C31, HO⟩
  iapply (wp_load_acc_half1_any (defs := defs₀ (F := F)) (Γ := .empty) (Q := Q) (Ix := Unit) (Name := ℕ) (U := UU) (Lvl := ℕ) 𝒱₀ c none Set.univ (off := ![0, 512]) rfl
    (inb := inb_S1024x1024_S1024x512_0_512) (hl := View.loadsAt_vmem h_S1024x512) fullShare (fun _ => (accM.view.writes (Elt F) f3 [⟨Rect.unit (s := S1024x1024) ![0, 0] S1024x512.size inb_S1024x1024_S1024x512_0_0, k0_pay3 (xIn m c) (wIn m c)⟩]))) $$ [Hright]
  · iexact Hright
  iintro %v521 Hright
  iapply (wp_store_acc_half1 (defs := defs₀ (F := F)) (Γ := .empty) (Q := Q) (Ix := Unit) (Name := ℕ) (U := UU) (Lvl := ℕ) 𝒱₀ c none Set.univ (off := ![0, 512]) rfl
    (inb := inb_S1024x1024_S1024x512_0_512) (k0_pay5 (k0_pay1 (xIn m c)) (k0_pay2 (wIn m c))) (fun _ => (accM.view.writes (Elt F) f3 [⟨Rect.unit (s := S1024x1024) ![0, 0] S1024x512.size inb_S1024x1024_S1024x512_0_0, k0_pay3 (xIn m c) (wIn m c)⟩]))) $$ [Hright]
  · iexact Hright
  iintro Hright
  ihave Hright := (Entails.of_eq (acc_right_eq_sent (Ix := Unit) (Name := ℕ) (U := UU) (Lvl := ℕ) m c fullShare)) $$ Hright
  ihave Hright := (Entails.of_eq (places_chain _)) $$ Hright
  icases Hright with ⟨B0, B1, B2, B3, B4, B5, B6, B7, B8, B9, B10, B11, B12, B13, B14, B15, B16, B17, B18, B19, B20, B21, B22, B23, B24, B25, B26, B27, B28, B29, B30, B31⟩
  have eret : ((Prog.ret PUnit.unit : Prog (TpuEff nD τ sig (Elt F) Λ₀ .tc) PUnit).bind fun __r => (Pure.pure PUnit.unit : Prog (TpuEff nD τ sig (Elt F) Λ₀ .tc) PUnit))
      = (Pure.pure PUnit.unit : Prog (TpuEff nD τ sig (Elt F) Λ₀ .tc) PUnit) := rfl
  rw [eret]
  sl_step
  iapply Hk
  isplitl [AS30 C30]
  · isplitr; · iexact IS30
    isplitl [AS30]; · iexact AS30
    iexact C30
  isplitl [AS31 C31]
  · isplitr; · iexact IS31
    isplitl [AS31]; · iexact AS31
    iexact C31
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  isplitl [B20]; · iexact B20
  isplitl [B21]; · iexact B21
  isplitl [B22]; · iexact B22
  isplitl [B23]; · iexact B23
  isplitl [B24]; · iexact B24
  isplitl [B25]; · iexact B25
  isplitl [B26]; · iexact B26
  isplitl [B27]; · iexact B27
  isplitl [B28]; · iexact B28
  isplitl [B29]; · iexact B29
  isplitl [B30]; · iexact B30
  isplitl [B31]; · iexact B31
  iexact HO

/-- info: 'Cert.KernelIdeal.AllReduce.part20_spec' depends on axioms: [propext, Classical.choice, Quot.sound] -/
#guard_msgs in #print axioms part20_spec

end Cert.KernelIdeal.AllReduce

end
-- ==== Proof.BodyPart21.lean ====
/-
  The own slot of half 1 and the first copy of half 1.
-/
import proofs.«900438_g7700000000000439_dist_gemm_ar_m1024_k1024_n1024_f32_gelu_v7x_i32_1_alg».proof.Proof.BodyTables
import proofs.«900438_g7700000000000439_dist_gemm_ar_m1024_k1024_n1024_f32_gelu_v7x_i32_1_alg».proof.Proof.OwnPieces
import proofs.«900438_g7700000000000439_dist_gemm_ar_m1024_k1024_n1024_f32_gelu_v7x_i32_1_alg».proof.Proof.BodyValues
noncomputable section
namespace Cert.KernelIdeal.AllReduce
open Cert.KernelIdeal Cert.KernelIdeal.Gen Cert.KernelIdeal.Regions
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma in
set_option maxHeartbeats 4000000 in
/-- The own rows of half 1 go into slot 0 of half 1, then the first copy of half 1 leaves. -/
theorem part21_spec (c : Dev nD) (v2 : BitVec 32) (fb : Buf (Elt F) ((c : Thread nD τ).loc cc0_scratch2)) (O : CellTallies nD τ sig Unit) (W : Waits sig Unit) (Q : PUnit → sProp 𝕄) :
    iprop(((chunk accM (fwd c 0) 1).view.loc (c : Thread nD τ) ↦[(chunk accM (fwd c 0) 1).view.set]{fullShare} (chunk accM (fwd c 0) 1).view.rep (sent m c (fwd c 0) 1))
      ∗ ((slot 1 0).view.loc (c : Thread nD τ) ↦[(slot 1 0).view.set]{fullShare} fb)
      ∗ copyRes m K rsS rsR c 1 1
      ∗ ((chunk accM (fwd c 1) 1).view.loc (c : Thread nD τ) ↦[(chunk accM (fwd c 1) 1).view.set]{fullShare} (chunk accM (fwd c 1) 1).view.rep (sent m c (fwd c 1) 1))
      ∗ (∃ f, ((slot 1 1).view.loc (fwd c 1 : Thread nD τ) ↦[(slot 1 1).view.set]{fullShare} f))
      ∗ owes (c : Thread nD τ) (O + tallyAt (dmaCell (fwd c 1) rsR 1 1) () Nc) W
      ∗ (∀ r, (((chunk accM (fwd c 0) 1).view.loc (c : Thread nD τ) ↦[(chunk accM (fwd c 0) 1).view.set]{fullShare} (chunk accM (fwd c 0) 1).view.rep (sent m c (fwd c 0) 1))
        ∗ ((slot 1 0).view.loc (c : Thread nD τ) ↦[(slot 1 0).view.set]{fullShare} (slot 1 0).view.rep (sent m (bwd c 0) c 1))
        ∗ recvRes m K rsS c 1 1
        ∗ owes (c : Thread nD τ) O W) -∗ Q r))
      ⊢ wp frame (wpE (defs₀ (F := F)) 𝒱₀ c none) Set.univ (k0_part21 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  rw [fwd_zero c, bwd_zero c]
  unfold copyRes
  iintro ⟨Hacc, Hslot, ⟨#IS, TS, #RS, AS, #ID, TD, #RD⟩, Src, ⟨%g, Dst⟩, HO, Hk⟩
  sl_exec_parts (disch := simp only [dev63_eq])
  sl_unfold_run_names
  have hV : View.readAt (Elt F) (Memref.whole cc0_scratch0 : Memref sig .tc .vmem S1024x1024 .bf16).view (Rect.unit (s := S1024x1024) (k0_off3 c) S32x512.size (k0_off3_inb c)).toLoadRect ((chunk accM c 1).view.rep (sent m c c 1)) = sent m c c 1 :=
    read_access_chunk_acc_rep c 1 (k0_off3_eq c) (k0_off3_inb c) (sent m c c 1)
  have e : (((slot 1 0).view.loc (c : Thread nD τ) ↦[(slot 1 0).view.set]{fullShare} View.write (Elt F) ((Memref.whole cc0_scratch2 : Memref sig .tc .vmem S2x32x32x512 .bf16).access (Rect.unit (s := S2x32x32x512) ![1, 0, 0, 0] S1x1x32x512.size inb_S2x32x32x512_S1x1x32x512_1_0_0_0)) fb (shapeCast S1x1x32x512 (View.readAt (Elt F) (Memref.whole cc0_scratch0 : Memref sig .tc .vmem S1024x1024 .bf16).view (Rect.unit (s := S1024x1024) (k0_off3 c) S32x512.size (k0_off3_inb c)).toLoadRect ((chunk accM c 1).view.rep (sent m c c 1))) shapeCasts_S32x512_S1x1x32x512) Finset.univ) : sProp 𝕄) = ((slot 1 0).view.loc (c : Thread nD τ) ↦[(slot 1 0).view.set]{fullShare} (slot 1 0).view.rep (sent m c c 1)) := by
    rw [hV]
    exact slot_write_eq_rep (Ix := Unit) (Name := ℕ) (U := UU) (Lvl := ℕ) c (1 : Fin 2) (0 : Fin 32) (off := ![1, 0, 0, 0]) rfl inb_S2x32x32x512_S1x1x32x512_1_0_0_0 fullShare fb (sent m c c 1) shapeCasts_S32x512_S1x1x32x512
  ihave Hslot := (Entails.of_eq e) $$ Hslot
  iapply (wp_send_rs m K c 1 1 (by decide) g W (O + tallyAt (dmaCell (fwd c 1) rsR 1 1) () Nc) O rfl) $$ [TS TD Src Dst HO]
  · isplitr; · iexact IS
    isplitr; · iexact ID
    isplitl [Src]; · iexact Src
    isplitl [Dst]; · iexact Dst
    isplitl [HO]; · iexact HO
    isplitl [TS]; · iexact TS
    isplitr; · iexact RS
    isplitl [TD]; · iexact TD
    iexact RD
  iintro ⟨CS, HO⟩
  sl_exec_parts (disch := simp only [dev63_eq])
  sl_step
  iapply Hk
  isplitl [Hacc]; · iexact Hacc
  isplitl [Hslot]; · iexact Hslot
  isplitl [AS CS]
  · unfold recvRes
    isplitr; · iexact IS
    isplitl [AS]; · iexact AS
    iexact CS
  iexact HO

end Cert.KernelIdeal.AllReduce

end
-- ==== Proof.BodyPart50.lean ====
/-
  The part of the body that ends the first reduce phase: the last chunk of half 0 lands, the 32 slots are read and
  summed through the GELU, and the own gather rows, written, are dealt out in the 32 shares of the gather copies.
-/
import proofs.«900438_g7700000000000439_dist_gemm_ar_m1024_k1024_n1024_f32_gelu_v7x_i32_1_alg».proof.Proof.BodyTables
import proofs.«900438_g7700000000000439_dist_gemm_ar_m1024_k1024_n1024_f32_gelu_v7x_i32_1_alg».proof.Proof.BodyGlue
import proofs.«900438_g7700000000000439_dist_gemm_ar_m1024_k1024_n1024_f32_gelu_v7x_i32_1_alg».proof.Proof.OwnPieces
import proofs.«900438_g7700000000000439_dist_gemm_ar_m1024_k1024_n1024_f32_gelu_v7x_i32_1_alg».proof.Proof.LoadPieces
import proofs.«900438_g7700000000000439_dist_gemm_ar_m1024_k1024_n1024_f32_gelu_v7x_i32_1_alg».proof.Proof.GatherShares
import proofs.«900438_g7700000000000439_dist_gemm_ar_m1024_k1024_n1024_f32_gelu_v7x_i32_1_alg».proof.Proof.Chains
noncomputable section
namespace Cert.KernelIdeal.AllReduce
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Regions
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_rsR in
set_option maxHeartbeats 8000000 in
theorem part50_spec (c : Dev nD) (v2 : BitVec 32) (fo : Buf (Elt F) ((c : Thread nD τ).loc cc0_scratch1)) (W : Waits sig Unit) (Q : PUnit → sProp 𝕄) :
    iprop(recvRes m K rsR c 0 31
      ∗ levAts L lv
      ∗ ((slot 0 0).view.loc (c : Thread nD τ) ↦[(slot 0 0).view.set]{fullShare} (slot 0 0).view.rep (sent m (bwd c 0) c 0))
      ∗ ((slot 0 1).view.loc (c : Thread nD τ) ↦[(slot 0 1).view.set]{fullShare} (slot 0 1).view.rep (sent m (bwd c 1) c 0))
      ∗ ((slot 0 2).view.loc (c : Thread nD τ) ↦[(slot 0 2).view.set]{fullShare} (slot 0 2).view.rep (sent m (bwd c 2) c 0))
      ∗ ((slot 0 3).view.loc (c : Thread nD τ) ↦[(slot 0 3).view.set]{fullShare} (slot 0 3).view.rep (sent m (bwd c 3) c 0))
      ∗ ((slot 0 4).view.loc (c : Thread nD τ) ↦[(slot 0 4).view.set]{fullShare} (slot 0 4).view.rep (sent m (bwd c 4) c 0))
      ∗ ((slot 0 5).view.loc (c : Thread nD τ) ↦[(slot 0 5).view.set]{fullShare} (slot 0 5).view.rep (sent m (bwd c 5) c 0))
      ∗ ((slot 0 6).view.loc (c : Thread nD τ) ↦[(slot 0 6).view.set]{fullShare} (slot 0 6).view.rep (sent m (bwd c 6) c 0))
      ∗ ((slot 0 7).view.loc (c : Thread nD τ) ↦[(slot 0 7).view.set]{fullShare} (slot 0 7).view.rep (sent m (bwd c 7) c 0))
      ∗ ((slot 0 8).view.loc (c : Thread nD τ) ↦[(slot 0 8).view.set]{fullShare} (slot 0 8).view.rep (sent m (bwd c 8) c 0))
      ∗ ((slot 0 9).view.loc (c : Thread nD τ) ↦[(slot 0 9).view.set]{fullShare} (slot 0 9).view.rep (sent m (bwd c 9) c 0))
      ∗ ((slot 0 10).view.loc (c : Thread nD τ) ↦[(slot 0 10).view.set]{fullShare} (slot 0 10).view.rep (sent m (bwd c 10) c 0))
      ∗ ((slot 0 11).view.loc (c : Thread nD τ) ↦[(slot 0 11).view.set]{fullShare} (slot 0 11).view.rep (sent m (bwd c 11) c 0))
      ∗ ((slot 0 12).view.loc (c : Thread nD τ) ↦[(slot 0 12).view.set]{fullShare} (slot 0 12).view.rep (sent m (bwd c 12) c 0))
      ∗ ((slot 0 13).view.loc (c : Thread nD τ) ↦[(slot 0 13).view.set]{fullShare} (slot 0 13).view.rep (sent m (bwd c 13) c 0))
      ∗ ((slot 0 14).view.loc (c : Thread nD τ) ↦[(slot 0 14).view.set]{fullShare} (slot 0 14).view.rep (sent m (bwd c 14) c 0))
      ∗ ((slot 0 15).view.loc (c : Thread nD τ) ↦[(slot 0 15).view.set]{fullShare} (slot 0 15).view.rep (sent m (bwd c 15) c 0))
      ∗ ((slot 0 16).view.loc (c : Thread nD τ) ↦[(slot 0 16).view.set]{fullShare} (slot 0 16).view.rep (sent m (bwd c 16) c 0))
      ∗ ((slot 0 17).view.loc (c : Thread nD τ) ↦[(slot 0 17).view.set]{fullShare} (slot 0 17).view.rep (sent m (bwd c 17) c 0))
      ∗ ((slot 0 18).view.loc (c : Thread nD τ) ↦[(slot 0 18).view.set]{fullShare} (slot 0 18).view.rep (sent m (bwd c 18) c 0))
      ∗ ((slot 0 19).view.loc (c : Thread nD τ) ↦[(slot 0 19).view.set]{fullShare} (slot 0 19).view.rep (sent m (bwd c 19) c 0))
      ∗ ((slot 0 20).view.loc (c : Thread nD τ) ↦[(slot 0 20).view.set]{fullShare} (slot 0 20).view.rep (sent m (bwd c 20) c 0))
      ∗ ((slot 0 21).view.loc (c : Thread nD τ) ↦[(slot 0 21).view.set]{fullShare} (slot 0 21).view.rep (sent m (bwd c 21) c 0))
      ∗ ((slot 0 22).view.loc (c : Thread nD τ) ↦[(slot 0 22).view.set]{fullShare} (slot 0 22).view.rep (sent m (bwd c 22) c 0))
      ∗ ((slot 0 23).view.loc (c : Thread nD τ) ↦[(slot 0 23).view.set]{fullShare} (slot 0 23).view.rep (sent m (bwd c 23) c 0))
      ∗ ((slot 0 24).view.loc (c : Thread nD τ) ↦[(slot 0 24).view.set]{fullShare} (slot 0 24).view.rep (sent m (bwd c 24) c 0))
      ∗ ((slot 0 25).view.loc (c : Thread nD τ) ↦[(slot 0 25).view.set]{fullShare} (slot 0 25).view.rep (sent m (bwd c 25) c 0))
      ∗ ((slot 0 26).view.loc (c : Thread nD τ) ↦[(slot 0 26).view.set]{fullShare} (slot 0 26).view.rep (sent m (bwd c 26) c 0))
      ∗ ((slot 0 27).view.loc (c : Thread nD τ) ↦[(slot 0 27).view.set]{fullShare} (slot 0 27).view.rep (sent m (bwd c 27) c 0))
      ∗ ((slot 0 28).view.loc (c : Thread nD τ) ↦[(slot 0 28).view.set]{fullShare} (slot 0 28).view.rep (sent m (bwd c 28) c 0))
      ∗ ((slot 0 29).view.loc (c : Thread nD τ) ↦[(slot 0 29).view.set]{fullShare} (slot 0 29).view.rep (sent m (bwd c 29) c 0))
      ∗ ((slot 0 30).view.loc (c : Thread nD τ) ↦[(slot 0 30).view.set]{fullShare} (slot 0 30).view.rep (sent m (bwd c 30) c 0))
      ∗ ((chunk outM (fwd c 0) 0).view.loc (c : Thread nD τ) ↦[(chunk outM (fwd c 0) 0).view.set]{fullShare} fo)
      ∗ owes (c : Thread nD τ) (owedAfter c 93) W
      ∗ (∀ r, (((slot 0 0).view.loc (c : Thread nD τ) ↦[(slot 0 0).view.set]{fullShare} (slot 0 0).view.rep (sent m (bwd c 0) c 0))
        ∗ ((slot 0 1).view.loc (c : Thread nD τ) ↦[(slot 0 1).view.set]{fullShare} (slot 0 1).view.rep (sent m (bwd c 1) c 0))
        ∗ ((slot 0 2).view.loc (c : Thread nD τ) ↦[(slot 0 2).view.set]{fullShare} (slot 0 2).view.rep (sent m (bwd c 2) c 0))
        ∗ ((slot 0 3).view.loc (c : Thread nD τ) ↦[(slot 0 3).view.set]{fullShare} (slot 0 3).view.rep (sent m (bwd c 3) c 0))
        ∗ ((slot 0 4).view.loc (c : Thread nD τ) ↦[(slot 0 4).view.set]{fullShare} (slot 0 4).view.rep (sent m (bwd c 4) c 0))
        ∗ ((slot 0 5).view.loc (c : Thread nD τ) ↦[(slot 0 5).view.set]{fullShare} (slot 0 5).view.rep (sent m (bwd c 5) c 0))
        ∗ ((slot 0 6).view.loc (c : Thread nD τ) ↦[(slot 0 6).view.set]{fullShare} (slot 0 6).view.rep (sent m (bwd c 6) c 0))
        ∗ ((slot 0 7).view.loc (c : Thread nD τ) ↦[(slot 0 7).view.set]{fullShare} (slot 0 7).view.rep (sent m (bwd c 7) c 0))
        ∗ ((slot 0 8).view.loc (c : Thread nD τ) ↦[(slot 0 8).view.set]{fullShare} (slot 0 8).view.rep (sent m (bwd c 8) c 0))
        ∗ ((slot 0 9).view.loc (c : Thread nD τ) ↦[(slot 0 9).view.set]{fullShare} (slot 0 9).view.rep (sent m (bwd c 9) c 0))
        ∗ ((slot 0 10).view.loc (c : Thread nD τ) ↦[(slot 0 10).view.set]{fullShare} (slot 0 10).view.rep (sent m (bwd c 10) c 0))
        ∗ ((slot 0 11).view.loc (c : Thread nD τ) ↦[(slot 0 11).view.set]{fullShare} (slot 0 11).view.rep (sent m (bwd c 11) c 0))
        ∗ ((slot 0 12).view.loc (c : Thread nD τ) ↦[(slot 0 12).view.set]{fullShare} (slot 0 12).view.rep (sent m (bwd c 12) c 0))
        ∗ ((slot 0 13).view.loc (c : Thread nD τ) ↦[(slot 0 13).view.set]{fullShare} (slot 0 13).view.rep (sent m (bwd c 13) c 0))
        ∗ ((slot 0 14).view.loc (c : Thread nD τ) ↦[(slot 0 14).view.set]{fullShare} (slot 0 14).view.rep (sent m (bwd c 14) c 0))
        ∗ ((slot 0 15).view.loc (c : Thread nD τ) ↦[(slot 0 15).view.set]{fullShare} (slot 0 15).view.rep (sent m (bwd c 15) c 0))
        ∗ ((slot 0 16).view.loc (c : Thread nD τ) ↦[(slot 0 16).view.set]{fullShare} (slot 0 16).view.rep (sent m (bwd c 16) c 0))
        ∗ ((slot 0 17).view.loc (c : Thread nD τ) ↦[(slot 0 17).view.set]{fullShare} (slot 0 17).view.rep (sent m (bwd c 17) c 0))
        ∗ ((slot 0 18).view.loc (c : Thread nD τ) ↦[(slot 0 18).view.set]{fullShare} (slot 0 18).view.rep (sent m (bwd c 18) c 0))
        ∗ ((slot 0 19).view.loc (c : Thread nD τ) ↦[(slot 0 19).view.set]{fullShare} (slot 0 19).view.rep (sent m (bwd c 19) c 0))
        ∗ ((slot 0 20).view.loc (c : Thread nD τ) ↦[(slot 0 20).view.set]{fullShare} (slot 0 20).view.rep (sent m (bwd c 20) c 0))
        ∗ ((slot 0 21).view.loc (c : Thread nD τ) ↦[(slot 0 21).view.set]{fullShare} (slot 0 21).view.rep (sent m (bwd c 21) c 0))
        ∗ ((slot 0 22).view.loc (c : Thread nD τ) ↦[(slot 0 22).view.set]{fullShare} (slot 0 22).view.rep (sent m (bwd c 22) c 0))
        ∗ ((slot 0 23).view.loc (c : Thread nD τ) ↦[(slot 0 23).view.set]{fullShare} (slot 0 23).view.rep (sent m (bwd c 23) c 0))
        ∗ ((slot 0 24).view.loc (c : Thread nD τ) ↦[(slot 0 24).view.set]{fullShare} (slot 0 24).view.rep (sent m (bwd c 24) c 0))
        ∗ ((slot 0 25).view.loc (c : Thread nD τ) ↦[(slot 0 25).view.set]{fullShare} (slot 0 25).view.rep (sent m (bwd c 25) c 0))
        ∗ ((slot 0 26).view.loc (c : Thread nD τ) ↦[(slot 0 26).view.set]{fullShare} (slot 0 26).view.rep (sent m (bwd c 26) c 0))
        ∗ ((slot 0 27).view.loc (c : Thread nD τ) ↦[(slot 0 27).view.set]{fullShare} (slot 0 27).view.rep (sent m (bwd c 27) c 0))
        ∗ ((slot 0 28).view.loc (c : Thread nD τ) ↦[(slot 0 28).view.set]{fullShare} (slot 0 28).view.rep (sent m (bwd c 28) c 0))
        ∗ ((slot 0 29).view.loc (c : Thread nD τ) ↦[(slot 0 29).view.set]{fullShare} (slot 0 29).view.rep (sent m (bwd c 29) c 0))
        ∗ ((slot 0 30).view.loc (c : Thread nD τ) ↦[(slot 0 30).view.set]{fullShare} (slot 0 30).view.rep (sent m (bwd c 30) c 0))
        ∗ ((slot 0 31).view.loc (c : Thread nD τ) ↦[(slot 0 31).view.set]{fullShare} (slot 0 31).view.rep (sent m (bwd c 31) c 0))
        ∗ (cellInv ER (sched m) (K (dmaCell c rsR 0 31)) (dmaCell c rsR 0 31) ∗ atPos ER (dmaCell c rsR 0 31) 1 ∅ 0)
        ∗ ((chunk outM c 0).view.loc (c : Thread nD τ) ↦[(chunk outM c 0).view.set]{shr 0} (chunk outM c 0).view.rep (reduced m c 0))
        ∗ ((chunk outM c 0).view.loc (c : Thread nD τ) ↦[(chunk outM c 0).view.set]{shr 1} (chunk outM c 0).view.rep (reduced m c 0))
        ∗ ((chunk outM c 0).view.loc (c : Thread nD τ) ↦[(chunk outM c 0).view.set]{shr 2} (chunk outM c 0).view.rep (reduced m c 0))
        ∗ ((chunk outM c 0).view.loc (c : Thread nD τ) ↦[(chunk outM c 0).view.set]{shr 3} (chunk outM c 0).view.rep (reduced m c 0))
        ∗ ((chunk outM c 0).view.loc (c : Thread nD τ) ↦[(chunk outM c 0).view.set]{shr 4} (chunk outM c 0).view.rep (reduced m c 0))
        ∗ ((chunk outM c 0).view.loc (c : Thread nD τ) ↦[(chunk outM c 0).view.set]{shr 5} (chunk outM c 0).view.rep (reduced m c 0))
        ∗ ((chunk outM c 0).view.loc (c : Thread nD τ) ↦[(chunk outM c 0).view.set]{shr 6} (chunk outM c 0).view.rep (reduced m c 0))
        ∗ ((chunk outM c 0).view.loc (c : Thread nD τ) ↦[(chunk outM c 0).view.set]{shr 7} (chunk outM c 0).view.rep (reduced m c 0))
        ∗ ((chunk outM c 0).view.loc (c : Thread nD τ) ↦[(chunk outM c 0).view.set]{shr 8} (chunk outM c 0).view.rep (reduced m c 0))
        ∗ ((chunk outM c 0).view.loc (c : Thread nD τ) ↦[(chunk outM c 0).view.set]{shr 9} (chunk outM c 0).view.rep (reduced m c 0))
        ∗ ((chunk outM c 0).view.loc (c : Thread nD τ) ↦[(chunk outM c 0).view.set]{shr 10} (chunk outM c 0).view.rep (reduced m c 0))
        ∗ ((chunk outM c 0).view.loc (c : Thread nD τ) ↦[(chunk outM c 0).view.set]{shr 11} (chunk outM c 0).view.rep (reduced m c 0))
        ∗ ((chunk outM c 0).view.loc (c : Thread nD τ) ↦[(chunk outM c 0).view.set]{shr 12} (chunk outM c 0).view.rep (reduced m c 0))
        ∗ ((chunk outM c 0).view.loc (c : Thread nD τ) ↦[(chunk outM c 0).view.set]{shr 13} (chunk outM c 0).view.rep (reduced m c 0))
        ∗ ((chunk outM c 0).view.loc (c : Thread nD τ) ↦[(chunk outM c 0).view.set]{shr 14} (chunk outM c 0).view.rep (reduced m c 0))
        ∗ ((chunk outM c 0).view.loc (c : Thread nD τ) ↦[(chunk outM c 0).view.set]{shr 15} (chunk outM c 0).view.rep (reduced m c 0))
        ∗ ((chunk outM c 0).view.loc (c : Thread nD τ) ↦[(chunk outM c 0).view.set]{shr 16} (chunk outM c 0).view.rep (reduced m c 0))
        ∗ ((chunk outM c 0).view.loc (c : Thread nD τ) ↦[(chunk outM c 0).view.set]{shr 17} (chunk outM c 0).view.rep (reduced m c 0))
        ∗ ((chunk outM c 0).view.loc (c : Thread nD τ) ↦[(chunk outM c 0).view.set]{shr 18} (chunk outM c 0).view.rep (reduced m c 0))
        ∗ ((chunk outM c 0).view.loc (c : Thread nD τ) ↦[(chunk outM c 0).view.set]{shr 19} (chunk outM c 0).view.rep (reduced m c 0))
        ∗ ((chunk outM c 0).view.loc (c : Thread nD τ) ↦[(chunk outM c 0).view.set]{shr 20} (chunk outM c 0).view.rep (reduced m c 0))
        ∗ ((chunk outM c 0).view.loc (c : Thread nD τ) ↦[(chunk outM c 0).view.set]{shr 21} (chunk outM c 0).view.rep (reduced m c 0))
        ∗ ((chunk outM c 0).view.loc (c : Thread nD τ) ↦[(chunk outM c 0).view.set]{shr 22} (chunk outM c 0).view.rep (reduced m c 0))
        ∗ ((chunk outM c 0).view.loc (c : Thread nD τ) ↦[(chunk outM c 0).view.set]{shr 23} (chunk outM c 0).view.rep (reduced m c 0))
        ∗ ((chunk outM c 0).view.loc (c : Thread nD τ) ↦[(chunk outM c 0).view.set]{shr 24} (chunk outM c 0).view.rep (reduced m c 0))
        ∗ ((chunk outM c 0).view.loc (c : Thread nD τ) ↦[(chunk outM c 0).view.set]{shr 25} (chunk outM c 0).view.rep (reduced m c 0))
        ∗ ((chunk outM c 0).view.loc (c : Thread nD τ) ↦[(chunk outM c 0).view.set]{shr 26} (chunk outM c 0).view.rep (reduced m c 0))
        ∗ ((chunk outM c 0).view.loc (c : Thread nD τ) ↦[(chunk outM c 0).view.set]{shr 27} (chunk outM c 0).view.rep (reduced m c 0))
        ∗ ((chunk outM c 0).view.loc (c : Thread nD τ) ↦[(chunk outM c 0).view.set]{shr 28} (chunk outM c 0).view.rep (reduced m c 0))
        ∗ ((chunk outM c 0).view.loc (c : Thread nD τ) ↦[(chunk outM c 0).view.set]{shr 29} (chunk outM c 0).view.rep (reduced m c 0))
        ∗ ((chunk outM c 0).view.loc (c : Thread nD τ) ↦[(chunk outM c 0).view.set]{shr 30} (chunk outM c 0).view.rep (reduced m c 0))
        ∗ ((chunk outM c 0).view.loc (c : Thread nD τ) ↦[(chunk outM c 0).view.set]{shr 31} (chunk outM c 0).view.rep (reduced m c 0))
        ∗ owes (c : Thread nD τ) (owedAfter c 93) (insert (SemLoc.dma (semAt (arr rsR) 0 31), ()) (W))) -∗ Q r))
      ⊢ wp frame (wpE (defs₀ (F := F)) 𝒱₀ c none) Set.univ (k0_part50 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  have hred : reduced m c 0 = k0_pay7 (halfVal m c 0) := by unfold reduced; rw [if_pos rfl]
  rw [fwd_zero c]
  unfold recvRes
  iintro ⟨⟨#I31, A31, C31⟩, #Hlev, S0, S1, S2, S3, S4, S5, S6, S7, S8, S9, S10, S11, S12, S13, S14, S15, S16, S17, S18, S19, S20, S21, S22, S23, S24, S25, S26, S27, S28, S29, S30, Hout, HO, Hk⟩
  have hmw31 := mayWait_rsR0 (F := F) c 31
  sl_exec_parts
  iapply (wp_load_half (defs := defs₀ (F := F)) (Γ := .empty) (Q := Q) (Ix := Unit) (Name := ℕ) (U := UU) (Lvl := ℕ) 𝒱₀ c none Set.univ (0 : Fin 2) (off := ![0, 0, 0, 0]) rfl
    (inb := inb_S2x32x32x512_S1x32x32x512_0_0_0_0) (hl := View.loadsAt_vmem h_S1x32x32x512) fullShare (fun s => sent m (bwd c s) c 0)) $$ [S0 S1 S2 S3 S4 S5 S6 S7 S8 S9 S10 S11 S12 S13 S14 S15 S16 S17 S18 S19 S20 S21 S22 S23 S24 S25 S26 S27 S28 S29 S30 A31_pay1]
  · rw [places_chain]
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    iexact A31_pay1
  rw [places_chain]
  iintro ⟨T0, T1, T2, T3, T4, T5, T6, T7, T8, T9, T10, T11, T12, T13, T14, T15, T16, T17, T18, T19, T20, T21, T22, T23, T24, T25, T26, T27, T28, T29, T30, T31⟩
  iapply (wp_load_chunk_out (defs := defs₀ (F := F)) (Γ := .empty) (Q := Q) (Ix := Unit) (Name := ℕ) (U := UU) (Lvl := ℕ) 𝒱₀ c none Set.univ c (0 : Fin 2) (k0_off1_eq c)) $$ [Hout]
  · iexact Hout
  iintro Hout
  iapply (wp_store_chunk_out (defs := defs₀ (F := F)) (Γ := .empty) (Q := Q) (Ix := Unit) (Name := ℕ) (U := UU) (Lvl := ℕ) 𝒱₀ c none Set.univ c (0 : Fin 2) (k0_off1_eq c)
    (k0_pay7 (F := F) (halfVal m c 0))) $$ [Hout]
  · iexact Hout
  iintro Hout
  have eret : ((Prog.ret PUnit.unit : Prog (TpuEff nD τ sig (Elt F) Λ₀ .tc) PUnit).bind fun __r => (Pure.pure PUnit.unit : Prog (TpuEff nD τ sig (Elt F) Λ₀ .tc) PUnit))
      = (Pure.pure PUnit.unit : Prog (TpuEff nD τ sig (Elt F) Λ₀ .tc) PUnit) := rfl
  rw [eret]
  sl_step
  rw [← hred]
  ihave Hsh := (Entails.of_eq (pointsTo_full_eq_shares (Ix := Unit) (Name := ℕ) (U := UU) (Lvl := ℕ) (ℓ := (chunk outM c 0).view.loc (c : Thread nD τ))
    (chunk outM c 0).view.set ((chunk outM c 0).view.rep (reduced m c 0)))) $$ Hout
  rw [ks_chain]
  icases Hsh with ⟨R0, R1, R2, R3, R4, R5, R6, R7, R8, R9, R10, R11, R12, R13, R14, R15, R16, R17, R18, R19, R20, R21, R22, R23, R24, R25, R26, R27, R28, R29, R30, R31⟩
  iapply Hk
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  isplitl [T25]; · iexact T25
  isplitl [T26]; · iexact T26
  isplitl [T27]; · iexact T27
  isplitl [T28]; · iexact T28
  isplitl [T29]; · iexact T29
  isplitl [T30]; · iexact T30
  isplitl [T31]; · iexact T31
  isplitl [A31]; · (isplitr; · iexact I31); iexact A31
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [R18]; · iexact R18
  isplitl [R19]; · iexact R19
  isplitl [R20]; · iexact R20
  isplitl [R21]; · iexact R21
  isplitl [R22]; · iexact R22
  isplitl [R23]; · iexact R23
  isplitl [R24]; · iexact R24
  isplitl [R25]; · iexact R25
  isplitl [R26]; · iexact R26
  isplitl [R27]; · iexact R27
  isplitl [R28]; · iexact R28
  isplitl [R29]; · iexact R29
  isplitl [R30]; · iexact R30
  isplitl [R31]; · iexact R31
  iexact HO

/-- info: 'Cert.KernelIdeal.AllReduce.part50_spec' depends on axioms: [propext, Classical.choice, Quot.sound] -/
#guard_msgs in #print axioms part50_spec

end Cert.KernelIdeal.AllReduce

end
-- ==== Proof.BodyPart78.lean ====
/-
  The end of the receive waits of half 1 and the read of the 32 slots.
-/
import proofs.«900438_g7700000000000439_dist_gemm_ar_m1024_k1024_n1024_f32_gelu_v7x_i32_1_alg».proof.Proof.BodyTables
import proofs.«900438_g7700000000000439_dist_gemm_ar_m1024_k1024_n1024_f32_gelu_v7x_i32_1_alg».proof.Proof.LoadPieces
import proofs.«900438_g7700000000000439_dist_gemm_ar_m1024_k1024_n1024_f32_gelu_v7x_i32_1_alg».proof.Proof.Chains
noncomputable section
namespace Cert.KernelIdeal.AllReduce
open Cert.KernelIdeal Cert.KernelIdeal.Gen Cert.KernelIdeal.Regions
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_rsR in
set_option maxHeartbeats 8000000 in
/-- The last two receive waits of half 1, then the operand of the sum: the 32 slots of half 1 read as one block. -/
theorem part78_spec (c : Dev nD) (v2 : BitVec 32) (W : Waits sig Unit) (Q : (Σ' (v1984 : FVec F S32x512 .f32), FVec F S32x512 .f32) → sProp 𝕄) :
    iprop(recvRes m K rsR c 1 30
      ∗ recvRes m K rsR c 1 31
      ∗ levAts L lv
      ∗ ((slot 1 0).view.loc (c : Thread nD τ) ↦[(slot 1 0).view.set]{fullShare} (slot 1 0).view.rep (sent m (bwd c 0) c 1))
      ∗ ((slot 1 1).view.loc (c : Thread nD τ) ↦[(slot 1 1).view.set]{fullShare} (slot 1 1).view.rep (sent m (bwd c 1) c 1))
      ∗ ((slot 1 2).view.loc (c : Thread nD τ) ↦[(slot 1 2).view.set]{fullShare} (slot 1 2).view.rep (sent m (bwd c 2) c 1))
      ∗ ((slot 1 3).view.loc (c : Thread nD τ) ↦[(slot 1 3).view.set]{fullShare} (slot 1 3).view.rep (sent m (bwd c 3) c 1))
      ∗ ((slot 1 4).view.loc (c : Thread nD τ) ↦[(slot 1 4).view.set]{fullShare} (slot 1 4).view.rep (sent m (bwd c 4) c 1))
      ∗ ((slot 1 5).view.loc (c : Thread nD τ) ↦[(slot 1 5).view.set]{fullShare} (slot 1 5).view.rep (sent m (bwd c 5) c 1))
      ∗ ((slot 1 6).view.loc (c : Thread nD τ) ↦[(slot 1 6).view.set]{fullShare} (slot 1 6).view.rep (sent m (bwd c 6) c 1))
      ∗ ((slot 1 7).view.loc (c : Thread nD τ) ↦[(slot 1 7).view.set]{fullShare} (slot 1 7).view.rep (sent m (bwd c 7) c 1))
      ∗ ((slot 1 8).view.loc (c : Thread nD τ) ↦[(slot 1 8).view.set]{fullShare} (slot 1 8).view.rep (sent m (bwd c 8) c 1))
      ∗ ((slot 1 9).view.loc (c : Thread nD τ) ↦[(slot 1 9).view.set]{fullShare} (slot 1 9).view.rep (sent m (bwd c 9) c 1))
      ∗ ((slot 1 10).view.loc (c : Thread nD τ) ↦[(slot 1 10).view.set]{fullShare} (slot 1 10).view.rep (sent m (bwd c 10) c 1))
      ∗ ((slot 1 11).view.loc (c : Thread nD τ) ↦[(slot 1 11).view.set]{fullShare} (slot 1 11).view.rep (sent m (bwd c 11) c 1))
      ∗ ((slot 1 12).view.loc (c : Thread nD τ) ↦[(slot 1 12).view.set]{fullShare} (slot 1 12).view.rep (sent m (bwd c 12) c 1))
      ∗ ((slot 1 13).view.loc (c : Thread nD τ) ↦[(slot 1 13).view.set]{fullShare} (slot 1 13).view.rep (sent m (bwd c 13) c 1))
      ∗ ((slot 1 14).view.loc (c : Thread nD τ) ↦[(slot 1 14).view.set]{fullShare} (slot 1 14).view.rep (sent m (bwd c 14) c 1))
      ∗ ((slot 1 15).view.loc (c : Thread nD τ) ↦[(slot 1 15).view.set]{fullShare} (slot 1 15).view.rep (sent m (bwd c 15) c 1))
      ∗ ((slot 1 16).view.loc (c : Thread nD τ) ↦[(slot 1 16).view.set]{fullShare} (slot 1 16).view.rep (sent m (bwd c 16) c 1))
      ∗ ((slot 1 17).view.loc (c : Thread nD τ) ↦[(slot 1 17).view.set]{fullShare} (slot 1 17).view.rep (sent m (bwd c 17) c 1))
      ∗ ((slot 1 18).view.loc (c : Thread nD τ) ↦[(slot 1 18).view.set]{fullShare} (slot 1 18).view.rep (sent m (bwd c 18) c 1))
      ∗ ((slot 1 19).view.loc (c : Thread nD τ) ↦[(slot 1 19).view.set]{fullShare} (slot 1 19).view.rep (sent m (bwd c 19) c 1))
      ∗ ((slot 1 20).view.loc (c : Thread nD τ) ↦[(slot 1 20).view.set]{fullShare} (slot 1 20).view.rep (sent m (bwd c 20) c 1))
      ∗ ((slot 1 21).view.loc (c : Thread nD τ) ↦[(slot 1 21).view.set]{fullShare} (slot 1 21).view.rep (sent m (bwd c 21) c 1))
      ∗ ((slot 1 22).view.loc (c : Thread nD τ) ↦[(slot 1 22).view.set]{fullShare} (slot 1 22).view.rep (sent m (bwd c 22) c 1))
      ∗ ((slot 1 23).view.loc (c : Thread nD τ) ↦[(slot 1 23).view.set]{fullShare} (slot 1 23).view.rep (sent m (bwd c 23) c 1))
      ∗ ((slot 1 24).view.loc (c : Thread nD τ) ↦[(slot 1 24).view.set]{fullShare} (slot 1 24).view.rep (sent m (bwd c 24) c 1))
      ∗ ((slot 1 25).view.loc (c : Thread nD τ) ↦[(slot 1 25).view.set]{fullShare} (slot 1 25).view.rep (sent m (bwd c 25) c 1))
      ∗ ((slot 1 26).view.loc (c : Thread nD τ) ↦[(slot 1 26).view.set]{fullShare} (slot 1 26).view.rep (sent m (bwd c 26) c 1))
      ∗ ((slot 1 27).view.loc (c : Thread nD τ) ↦[(slot 1 27).view.set]{fullShare} (slot 1 27).view.rep (sent m (bwd c 27) c 1))
      ∗ ((slot 1 28).view.loc (c : Thread nD τ) ↦[(slot 1 28).view.set]{fullShare} (slot 1 28).view.rep (sent m (bwd c 28) c 1))
      ∗ ((slot 1 29).view.loc (c : Thread nD τ) ↦[(slot 1 29).view.set]{fullShare} (slot 1 29).view.rep (sent m (bwd c 29) c 1))
      ∗ owes (c : Thread nD τ) (owedAfter c 124) W
      ∗ ((((slot 1 0).view.loc (c : Thread nD τ) ↦[(slot 1 0).view.set]{fullShare} (slot 1 0).view.rep (sent m (bwd c 0) c 1))
        ∗ ((slot 1 1).view.loc (c : Thread nD τ) ↦[(slot 1 1).view.set]{fullShare} (slot 1 1).view.rep (sent m (bwd c 1) c 1))
        ∗ ((slot 1 2).view.loc (c : Thread nD τ) ↦[(slot 1 2).view.set]{fullShare} (slot 1 2).view.rep (sent m (bwd c 2) c 1))
        ∗ ((slot 1 3).view.loc (c : Thread nD τ) ↦[(slot 1 3).view.set]{fullShare} (slot 1 3).view.rep (sent m (bwd c 3) c 1))
        ∗ ((slot 1 4).view.loc (c : Thread nD τ) ↦[(slot 1 4).view.set]{fullShare} (slot 1 4).view.rep (sent m (bwd c 4) c 1))
        ∗ ((slot 1 5).view.loc (c : Thread nD τ) ↦[(slot 1 5).view.set]{fullShare} (slot 1 5).view.rep (sent m (bwd c 5) c 1))
        ∗ ((slot 1 6).view.loc (c : Thread nD τ) ↦[(slot 1 6).view.set]{fullShare} (slot 1 6).view.rep (sent m (bwd c 6) c 1))
        ∗ ((slot 1 7).view.loc (c : Thread nD τ) ↦[(slot 1 7).view.set]{fullShare} (slot 1 7).view.rep (sent m (bwd c 7) c 1))
        ∗ ((slot 1 8).view.loc (c : Thread nD τ) ↦[(slot 1 8).view.set]{fullShare} (slot 1 8).view.rep (sent m (bwd c 8) c 1))
        ∗ ((slot 1 9).view.loc (c : Thread nD τ) ↦[(slot 1 9).view.set]{fullShare} (slot 1 9).view.rep (sent m (bwd c 9) c 1))
        ∗ ((slot 1 10).view.loc (c : Thread nD τ) ↦[(slot 1 10).view.set]{fullShare} (slot 1 10).view.rep (sent m (bwd c 10) c 1))
        ∗ ((slot 1 11).view.loc (c : Thread nD τ) ↦[(slot 1 11).view.set]{fullShare} (slot 1 11).view.rep (sent m (bwd c 11) c 1))
        ∗ ((slot 1 12).view.loc (c : Thread nD τ) ↦[(slot 1 12).view.set]{fullShare} (slot 1 12).view.rep (sent m (bwd c 12) c 1))
        ∗ ((slot 1 13).view.loc (c : Thread nD τ) ↦[(slot 1 13).view.set]{fullShare} (slot 1 13).view.rep (sent m (bwd c 13) c 1))
        ∗ ((slot 1 14).view.loc (c : Thread nD τ) ↦[(slot 1 14).view.set]{fullShare} (slot 1 14).view.rep (sent m (bwd c 14) c 1))
        ∗ ((slot 1 15).view.loc (c : Thread nD τ) ↦[(slot 1 15).view.set]{fullShare} (slot 1 15).view.rep (sent m (bwd c 15) c 1))
        ∗ ((slot 1 16).view.loc (c : Thread nD τ) ↦[(slot 1 16).view.set]{fullShare} (slot 1 16).view.rep (sent m (bwd c 16) c 1))
        ∗ ((slot 1 17).view.loc (c : Thread nD τ) ↦[(slot 1 17).view.set]{fullShare} (slot 1 17).view.rep (sent m (bwd c 17) c 1))
        ∗ ((slot 1 18).view.loc (c : Thread nD τ) ↦[(slot 1 18).view.set]{fullShare} (slot 1 18).view.rep (sent m (bwd c 18) c 1))
        ∗ ((slot 1 19).view.loc (c : Thread nD τ) ↦[(slot 1 19).view.set]{fullShare} (slot 1 19).view.rep (sent m (bwd c 19) c 1))
        ∗ ((slot 1 20).view.loc (c : Thread nD τ) ↦[(slot 1 20).view.set]{fullShare} (slot 1 20).view.rep (sent m (bwd c 20) c 1))
        ∗ ((slot 1 21).view.loc (c : Thread nD τ) ↦[(slot 1 21).view.set]{fullShare} (slot 1 21).view.rep (sent m (bwd c 21) c 1))
        ∗ ((slot 1 22).view.loc (c : Thread nD τ) ↦[(slot 1 22).view.set]{fullShare} (slot 1 22).view.rep (sent m (bwd c 22) c 1))
        ∗ ((slot 1 23).view.loc (c : Thread nD τ) ↦[(slot 1 23).view.set]{fullShare} (slot 1 23).view.rep (sent m (bwd c 23) c 1))
        ∗ ((slot 1 24).view.loc (c : Thread nD τ) ↦[(slot 1 24).view.set]{fullShare} (slot 1 24).view.rep (sent m (bwd c 24) c 1))
        ∗ ((slot 1 25).view.loc (c : Thread nD τ) ↦[(slot 1 25).view.set]{fullShare} (slot 1 25).view.rep (sent m (bwd c 25) c 1))
        ∗ ((slot 1 26).view.loc (c : Thread nD τ) ↦[(slot 1 26).view.set]{fullShare} (slot 1 26).view.rep (sent m (bwd c 26) c 1))
        ∗ ((slot 1 27).view.loc (c : Thread nD τ) ↦[(slot 1 27).view.set]{fullShare} (slot 1 27).view.rep (sent m (bwd c 27) c 1))
        ∗ ((slot 1 28).view.loc (c : Thread nD τ) ↦[(slot 1 28).view.set]{fullShare} (slot 1 28).view.rep (sent m (bwd c 28) c 1))
        ∗ ((slot 1 29).view.loc (c : Thread nD τ) ↦[(slot 1 29).view.set]{fullShare} (slot 1 29).view.rep (sent m (bwd c 29) c 1))
        ∗ ((slot 1 30).view.loc (c : Thread nD τ) ↦[(slot 1 30).view.set]{fullShare} (slot 1 30).view.rep (sent m (bwd c 30) c 1))
        ∗ ((slot 1 31).view.loc (c : Thread nD τ) ↦[(slot 1 31).view.set]{fullShare} (slot 1 31).view.rep (sent m (bwd c 31) c 1))
        ∗ (cellInv ER (sched m) (K (dmaCell c rsR 1 30)) (dmaCell c rsR 1 30) ∗ atPos ER (dmaCell c rsR 1 30) 1 ∅ 0)
        ∗ (cellInv ER (sched m) (K (dmaCell c rsR 1 31)) (dmaCell c rsR 1 31) ∗ atPos ER (dmaCell c rsR 1 31) 1 ∅ 0)
        ∗ owes (c : Thread nD τ) (owedAfter c 124) (insert (SemLoc.dma (semAt (arr rsR) 1 31), ()) (insert (SemLoc.dma (semAt (arr rsR) 1 30), ()) (W)))) -∗ Q ⟨k0_pay9 (halfVal m c 1), k0_pay10 (halfVal m c 1)⟩))
      ⊢ wp frame (wpE (defs₀ (F := F)) 𝒱₀ c none) Set.univ (k0_part78 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes halfVal
  iintro ⟨⟨#I30, A30, C30⟩, ⟨#I31, A31, C31⟩, #Hlev, G0, G1, G2, G3, G4, G5, G6, G7, G8, G9, G10, G11, G12, G13, G14, G15, G16, G17, G18, G19, G20, G21, G22, G23, G24, G25, G26, G27, G28, G29, HO, Hk⟩
  have hmw30 := mayWait_rsR1 (F := F) c 30
  have hmw31 := mayWait_rsR1 (F := F) c 31
  sl_exec_parts
  iapply (wp_load_half' 𝒱₀ c none Set.univ 1 rfl fullShare (slotVal m c 1)) $$ [G0 G1 G2 G3 G4 G5 G6 G7 G8 G9 G10 G11 G12 G13 G14 G15 G16 G17 G18 G19 G20 G21 G22 G23 G24 G25 G26 G27 G28 G29 A30_pay1 A31_pay1]
  · isplitl [G0]; · iexact G0
    rw [ks_chain]
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    isplitl [G18]; · iexact G18
    isplitl [G19]; · iexact G19
    isplitl [G20]; · iexact G20
    isplitl [G21]; · iexact G21
    isplitl [G22]; · iexact G22
    isplitl [G23]; · iexact G23
    isplitl [G24]; · iexact G24
    isplitl [G25]; · iexact G25
    isplitl [G26]; · iexact G26
    isplitl [G27]; · iexact G27
    isplitl [G28]; · iexact G28
    isplitl [G29]; · iexact G29
    isplitl [A30_pay1]; · iexact A30_pay1
    iexact A31_pay1
  iintro ⟨G0, Gall⟩
  sl_exec_parts
  sl_step
  ihave Gall := (Entails.of_eq (ks_chain _)) $$ Gall
  icases Gall with ⟨S1, S2, S3, S4, S5, S6, S7, S8, S9, S10, S11, S12, S13, S14, S15, S16, S17, S18, S19, S20, S21, S22, S23, S24, S25, S26, S27, S28, S29, S30, S31⟩
  iapply Hk
  isplitl [G0]; · iexact G0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [A30]; · (isplitr; · iexact I30); iexact A30
  isplitl [A31]; · (isplitr; · iexact I31); iexact A31
  iexact HO

end Cert.KernelIdeal.AllReduce

end
-- ==== Proof.BodyPart79.lean ====
/-
  The part of the body that finishes the second half's reduction: the own gather rows of half 1 are written, dealt out
  in the 32 shares of the gather copies, and the first of those copies is sent.
-/
import proofs.«900438_g7700000000000439_dist_gemm_ar_m1024_k1024_n1024_f32_gelu_v7x_i32_1_alg».proof.Proof.BodyTables
import proofs.«900438_g7700000000000439_dist_gemm_ar_m1024_k1024_n1024_f32_gelu_v7x_i32_1_alg».proof.Proof.BodyGlue
import proofs.«900438_g7700000000000439_dist_gemm_ar_m1024_k1024_n1024_f32_gelu_v7x_i32_1_alg».proof.Proof.OwnPieces
import proofs.«900438_g7700000000000439_dist_gemm_ar_m1024_k1024_n1024_f32_gelu_v7x_i32_1_alg».proof.Proof.GatherShares
import proofs.«900438_g7700000000000439_dist_gemm_ar_m1024_k1024_n1024_f32_gelu_v7x_i32_1_alg».proof.Proof.BodyValues
import proofs.«900438_g7700000000000439_dist_gemm_ar_m1024_k1024_n1024_f32_gelu_v7x_i32_1_alg».proof.Proof.Chains
noncomputable section
namespace Cert.KernelIdeal.AllReduce
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Regions
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_agS pay_agR in
set_option maxHeartbeats 8000000 in
theorem part79_spec (c : Dev nD) (v2 : BitVec 32) (fo : Buf (Elt F) ((c : Thread nD τ).loc cc0_scratch1)) (O : CellTallies nD τ sig Unit) (W : Waits sig Unit) (Q : PUnit → sProp 𝕄) :
    iprop(((chunk outM (fwd c 0) 1).view.loc (c : Thread nD τ) ↦[(chunk outM (fwd c 0) 1).view.set]{fullShare} fo)
      ∗ copyRes m K agS agR c 1 1
      ∗ (∃ f, ((chunk outM c 1).view.loc (fwd c 1 : Thread nD τ) ↦[(chunk outM c 1).view.set]{fullShare} f))
      ∗ owes (c : Thread nD τ) (O + tallyAt (dmaCell (fwd c 1) agR 1 1) () Nc) W
      ∗ (∀ r, (((chunk outM c 1).view.loc (c : Thread nD τ) ↦[(chunk outM c 1).view.set]{shr 0} (chunk outM c 1).view.rep (reduced m c 1))
        ∗ ((chunk outM c 1).view.loc (c : Thread nD τ) ↦[(chunk outM c 1).view.set]{shr 2} (chunk outM c 1).view.rep (reduced m c 1))
        ∗ ((chunk outM c 1).view.loc (c : Thread nD τ) ↦[(chunk outM c 1).view.set]{shr 3} (chunk outM c 1).view.rep (reduced m c 1))
        ∗ ((chunk outM c 1).view.loc (c : Thread nD τ) ↦[(chunk outM c 1).view.set]{shr 4} (chunk outM c 1).view.rep (reduced m c 1))
        ∗ ((chunk outM c 1).view.loc (c : Thread nD τ) ↦[(chunk outM c 1).view.set]{shr 5} (chunk outM c 1).view.rep (reduced m c 1))
        ∗ ((chunk outM c 1).view.loc (c : Thread nD τ) ↦[(chunk outM c 1).view.set]{shr 6} (chunk outM c 1).view.rep (reduced m c 1))
        ∗ ((chunk outM c 1).view.loc (c : Thread nD τ) ↦[(chunk outM c 1).view.set]{shr 7} (chunk outM c 1).view.rep (reduced m c 1))
        ∗ ((chunk outM c 1).view.loc (c : Thread nD τ) ↦[(chunk outM c 1).view.set]{shr 8} (chunk outM c 1).view.rep (reduced m c 1))
        ∗ ((chunk outM c 1).view.loc (c : Thread nD τ) ↦[(chunk outM c 1).view.set]{shr 9} (chunk outM c 1).view.rep (reduced m c 1))
        ∗ ((chunk outM c 1).view.loc (c : Thread nD τ) ↦[(chunk outM c 1).view.set]{shr 10} (chunk outM c 1).view.rep (reduced m c 1))
        ∗ ((chunk outM c 1).view.loc (c : Thread nD τ) ↦[(chunk outM c 1).view.set]{shr 11} (chunk outM c 1).view.rep (reduced m c 1))
        ∗ ((chunk outM c 1).view.loc (c : Thread nD τ) ↦[(chunk outM c 1).view.set]{shr 12} (chunk outM c 1).view.rep (reduced m c 1))
        ∗ ((chunk outM c 1).view.loc (c : Thread nD τ) ↦[(chunk outM c 1).view.set]{shr 13} (chunk outM c 1).view.rep (reduced m c 1))
        ∗ ((chunk outM c 1).view.loc (c : Thread nD τ) ↦[(chunk outM c 1).view.set]{shr 14} (chunk outM c 1).view.rep (reduced m c 1))
        ∗ ((chunk outM c 1).view.loc (c : Thread nD τ) ↦[(chunk outM c 1).view.set]{shr 15} (chunk outM c 1).view.rep (reduced m c 1))
        ∗ ((chunk outM c 1).view.loc (c : Thread nD τ) ↦[(chunk outM c 1).view.set]{shr 16} (chunk outM c 1).view.rep (reduced m c 1))
        ∗ ((chunk outM c 1).view.loc (c : Thread nD τ) ↦[(chunk outM c 1).view.set]{shr 17} (chunk outM c 1).view.rep (reduced m c 1))
        ∗ ((chunk outM c 1).view.loc (c : Thread nD τ) ↦[(chunk outM c 1).view.set]{shr 18} (chunk outM c 1).view.rep (reduced m c 1))
        ∗ ((chunk outM c 1).view.loc (c : Thread nD τ) ↦[(chunk outM c 1).view.set]{shr 19} (chunk outM c 1).view.rep (reduced m c 1))
        ∗ ((chunk outM c 1).view.loc (c : Thread nD τ) ↦[(chunk outM c 1).view.set]{shr 20} (chunk outM c 1).view.rep (reduced m c 1))
        ∗ ((chunk outM c 1).view.loc (c : Thread nD τ) ↦[(chunk outM c 1).view.set]{shr 21} (chunk outM c 1).view.rep (reduced m c 1))
        ∗ ((chunk outM c 1).view.loc (c : Thread nD τ) ↦[(chunk outM c 1).view.set]{shr 22} (chunk outM c 1).view.rep (reduced m c 1))
        ∗ ((chunk outM c 1).view.loc (c : Thread nD τ) ↦[(chunk outM c 1).view.set]{shr 23} (chunk outM c 1).view.rep (reduced m c 1))
        ∗ ((chunk outM c 1).view.loc (c : Thread nD τ) ↦[(chunk outM c 1).view.set]{shr 24} (chunk outM c 1).view.rep (reduced m c 1))
        ∗ ((chunk outM c 1).view.loc (c : Thread nD τ) ↦[(chunk outM c 1).view.set]{shr 25} (chunk outM c 1).view.rep (reduced m c 1))
        ∗ ((chunk outM c 1).view.loc (c : Thread nD τ) ↦[(chunk outM c 1).view.set]{shr 26} (chunk outM c 1).view.rep (reduced m c 1))
        ∗ ((chunk outM c 1).view.loc (c : Thread nD τ) ↦[(chunk outM c 1).view.set]{shr 27} (chunk outM c 1).view.rep (reduced m c 1))
        ∗ ((chunk outM c 1).view.loc (c : Thread nD τ) ↦[(chunk outM c 1).view.set]{shr 28} (chunk outM c 1).view.rep (reduced m c 1))
        ∗ ((chunk outM c 1).view.loc (c : Thread nD τ) ↦[(chunk outM c 1).view.set]{shr 29} (chunk outM c 1).view.rep (reduced m c 1))
        ∗ ((chunk outM c 1).view.loc (c : Thread nD τ) ↦[(chunk outM c 1).view.set]{shr 30} (chunk outM c 1).view.rep (reduced m c 1))
        ∗ ((chunk outM c 1).view.loc (c : Thread nD τ) ↦[(chunk outM c 1).view.set]{shr 31} (chunk outM c 1).view.rep (reduced m c 1))
        ∗ recvRes m K agS c 1 1
        ∗ owes (c : Thread nD τ) (O) (W)) -∗ Q r))
      ⊢ wp frame (wpE (defs₀ (F := F)) 𝒱₀ c none) Set.univ (k0_part79 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (k0_pay9 (halfVal m c 1)) (k0_pay10 (halfVal m c 1))) Q := by
  have hred : reduced m c 1 = k0_pay11 (k0_pay9 (halfVal m c 1)) (k0_pay10 (halfVal m c 1)) := by unfold reduced; rw [if_neg (by decide)]
  rw [fwd_zero c]
  unfold copyRes recvRes
  iintro ⟨Hout, ⟨#IS, TS, #RS, AS, #ID, TD, #RD⟩, ⟨%fd, Hdst⟩, HO, Hk⟩
  sl_exec_parts (disch := simp only [dev125_eq])
  sl_unfold_run_names
  ihave Hout := (Entails.of_eq (chunk_out_write_eq_rep (Ix := Unit) (Name := ℕ) (U := UU) (Lvl := ℕ) c c (1 : Fin 2) (k0_off3_eq c) (k0_off3_inb c) fullShare fo
    (k0_pay11 (k0_pay9 (halfVal m c 1)) (k0_pay10 (halfVal m c 1))))) $$ Hout
  rw [← hred]
  ihave Hsh := (Entails.of_eq (pointsTo_full_eq_shares (Ix := Unit) (Name := ℕ) (U := UU) (Lvl := ℕ) (ℓ := (chunk outM c 1).view.loc (c : Thread nD τ))
    (chunk outM c 1).view.set ((chunk outM c 1).view.rep (reduced m c 1)))) $$ Hout
  rw [ks_chain]
  icases Hsh with ⟨R0, R1, R2, R3, R4, R5, R6, R7, R8, R9, R10, R11, R12, R13, R14, R15, R16, R17, R18, R19, R20, R21, R22, R23, R24, R25, R26, R27, R28, R29, R30, R31⟩
  iapply (wp_send_ag m K c (1 : Fin 2) (1 : Fin 32) (by decide) fd W (O + tallyAt (dmaCell (fwd c 1) agR 1 1) () Nc) O rfl) $$ [R1 Hdst HO TS TD]
  · isplitr; · iexact IS
    isplitr; · iexact ID
    isplitl [R1]; · iexact R1
    isplitl [Hdst]; · iexact Hdst
    isplitl [HO]; · iexact HO
    isplitl [TS]; · iexact TS
    isplitr; · iexact RS
    isplitl [TD]; · iexact TD
    iexact RD
  iintro ⟨Ccred, HO⟩
  sl_step
  iapply Hk
  isplitl [R0]; · iexact R0
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [R18]; · iexact R18
  isplitl [R19]; · iexact R19
  isplitl [R20]; · iexact R20
  isplitl [R21]; · iexact R21
  isplitl [R22]; · iexact R22
  isplitl [R23]; · iexact R23
  isplitl [R24]; · iexact R24
  isplitl [R25]; · iexact R25
  isplitl [R26]; · iexact R26
  isplitl [R27]; · iexact R27
  isplitl [R28]; · iexact R28
  isplitl [R29]; · iexact R29
  isplitl [R30]; · iexact R30
  isplitl [R31]; · iexact R31
  isplitl [AS Ccred]
  · isplitr; · iexact IS
    isplitl [AS]; · iexact AS
    iexact Ccred
  iexact HO

/-- info: 'Cert.KernelIdeal.AllReduce.part79_spec' depends on axioms: [propext, Classical.choice, Quot.sound] -/
#guard_msgs in #print axioms part79_spec

end Cert.KernelIdeal.AllReduce

end
-- ==== Proof.BodyPart121.lean ====
/-
  Half 0 of the gather buffer widened into the result.
-/
import proofs.«900438_g7700000000000439_dist_gemm_ar_m1024_k1024_n1024_f32_gelu_v7x_i32_1_alg».proof.Proof.BodyTables
import proofs.«900438_g7700000000000439_dist_gemm_ar_m1024_k1024_n1024_f32_gelu_v7x_i32_1_alg».proof.Proof.LoadPieces
import proofs.«900438_g7700000000000439_dist_gemm_ar_m1024_k1024_n1024_f32_gelu_v7x_i32_1_alg».proof.Proof.Chains
import proofs.«900438_g7700000000000439_dist_gemm_ar_m1024_k1024_n1024_f32_gelu_v7x_i32_1_alg».proof.Proof.BodyValues
noncomputable section
namespace Cert.KernelIdeal.AllReduce
open Cert.KernelIdeal Cert.KernelIdeal.Gen Cert.KernelIdeal.Regions
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

/-- The result's staging buffer after the first half has been widened into it. -/
def stg2Mid (c : Dev nD) (f2 : Buf (Elt F) ((c : Thread nD τ).loc cc0_stg2_0)) : Buf (Elt F) ((c : Thread nD τ).loc cc0_stg2_0) :=
  View.write (Elt F) ((Memref.whole cc0_stg2_0 : Memref sig .tc .vmem S1024x1024 .f32).access (Rect.unit (s := S1024x1024) ![0, 0] S1024x512.size inb_S1024x1024_S1024x512_0_0)) f2 (k0_pay12 (gathered m 0)) Finset.univ

attribute [local sl_rounds] duties_dma amount_dma expect_dma pay_agR in
set_option maxHeartbeats 8000000 in
/-- The last two receive waits of the gather phase for half 0, the read of the whole half of the gather buffer, and its widening into the result. -/
theorem part121_spec (c : Dev nD) (v2 : BitVec 32) (v3005 : BitVec 32) (c1_i32_3836 : BitVec 32) (f2 : Buf (Elt F) ((c : Thread nD τ).loc cc0_stg2_0)) (W : Waits sig Unit) (Q : (Σ' (v3033 : BitVec 32), BitVec 32) → sProp 𝕄) :
    iprop(recvRes m K agR c 0 30
      ∗ recvRes m K agR c 0 31
      ∗ levAts L lv
      ∗ ((chunk outM c 0).view.loc (c : Thread nD τ) ↦[(chunk outM c 0).view.set]{shr 0} (chunk outM c 0).view.rep (reduced m c 0))
      ∗ ((chunk outM (bwd c 1) 0).view.loc (c : Thread nD τ) ↦[(chunk outM (bwd c 1) 0).view.set]{fullShare} (chunk outM (bwd c 1) 0).view.rep (reduced m (bwd c 1) 0))
      ∗ ((chunk outM (bwd c 2) 0).view.loc (c : Thread nD τ) ↦[(chunk outM (bwd c 2) 0).view.set]{fullShare} (chunk outM (bwd c 2) 0).view.rep (reduced m (bwd c 2) 0))
      ∗ ((chunk outM (bwd c 3) 0).view.loc (c : Thread nD τ) ↦[(chunk outM (bwd c 3) 0).view.set]{fullShare} (chunk outM (bwd c 3) 0).view.rep (reduced m (bwd c 3) 0))
      ∗ ((chunk outM (bwd c 4) 0).view.loc (c : Thread nD τ) ↦[(chunk outM (bwd c 4) 0).view.set]{fullShare} (chunk outM (bwd c 4) 0).view.rep (reduced m (bwd c 4) 0))
      ∗ ((chunk outM (bwd c 5) 0).view.loc (c : Thread nD τ) ↦[(chunk outM (bwd c 5) 0).view.set]{fullShare} (chunk outM (bwd c 5) 0).view.rep (reduced m (bwd c 5) 0))
      ∗ ((chunk outM (bwd c 6) 0).view.loc (c : Thread nD τ) ↦[(chunk outM (bwd c 6) 0).view.set]{fullShare} (chunk outM (bwd c 6) 0).view.rep (reduced m (bwd c 6) 0))
      ∗ ((chunk outM (bwd c 7) 0).view.loc (c : Thread nD τ) ↦[(chunk outM (bwd c 7) 0).view.set]{fullShare} (chunk outM (bwd c 7) 0).view.rep (reduced m (bwd c 7) 0))
      ∗ ((chunk outM (bwd c 8) 0).view.loc (c : Thread nD τ) ↦[(chunk outM (bwd c 8) 0).view.set]{fullShare} (chunk outM (bwd c 8) 0).view.rep (reduced m (bwd c 8) 0))
      ∗ ((chunk outM (bwd c 9) 0).view.loc (c : Thread nD τ) ↦[(chunk outM (bwd c 9) 0).view.set]{fullShare} (chunk outM (bwd c 9) 0).view.rep (reduced m (bwd c 9) 0))
      ∗ ((chunk outM (bwd c 10) 0).view.loc (c : Thread nD τ) ↦[(chunk outM (bwd c 10) 0).view.set]{fullShare} (chunk outM (bwd c 10) 0).view.rep (reduced m (bwd c 10) 0))
      ∗ ((chunk outM (bwd c 11) 0).view.loc (c : Thread nD τ) ↦[(chunk outM (bwd c 11) 0).view.set]{fullShare} (chunk outM (bwd c 11) 0).view.rep (reduced m (bwd c 11) 0))
      ∗ ((chunk outM (bwd c 12) 0).view.loc (c : Thread nD τ) ↦[(chunk outM (bwd c 12) 0).view.set]{fullShare} (chunk outM (bwd c 12) 0).view.rep (reduced m (bwd c 12) 0))
      ∗ ((chunk outM (bwd c 13) 0).view.loc (c : Thread nD τ) ↦[(chunk outM (bwd c 13) 0).view.set]{fullShare} (chunk outM (bwd c 13) 0).view.rep (reduced m (bwd c 13) 0))
      ∗ ((chunk outM (bwd c 14) 0).view.loc (c : Thread nD τ) ↦[(chunk outM (bwd c 14) 0).view.set]{fullShare} (chunk outM (bwd c 14) 0).view.rep (reduced m (bwd c 14) 0))
      ∗ ((chunk outM (bwd c 15) 0).view.loc (c : Thread nD τ) ↦[(chunk outM (bwd c 15) 0).view.set]{fullShare} (chunk outM (bwd c 15) 0).view.rep (reduced m (bwd c 15) 0))
      ∗ ((chunk outM (bwd c 16) 0).view.loc (c : Thread nD τ) ↦[(chunk outM (bwd c 16) 0).view.set]{fullShare} (chunk outM (bwd c 16) 0).view.rep (reduced m (bwd c 16) 0))
      ∗ ((chunk outM (bwd c 17) 0).view.loc (c : Thread nD τ) ↦[(chunk outM (bwd c 17) 0).view.set]{fullShare} (chunk outM (bwd c 17) 0).view.rep (reduced m (bwd c 17) 0))
      ∗ ((chunk outM (bwd c 18) 0).view.loc (c : Thread nD τ) ↦[(chunk outM (bwd c 18) 0).view.set]{fullShare} (chunk outM (bwd c 18) 0).view.rep (reduced m (bwd c 18) 0))
      ∗ ((chunk outM (bwd c 19) 0).view.loc (c : Thread nD τ) ↦[(chunk outM (bwd c 19) 0).view.set]{fullShare} (chunk outM (bwd c 19) 0).view.rep (reduced m (bwd c 19) 0))
      ∗ ((chunk outM (bwd c 20) 0).view.loc (c : Thread nD τ) ↦[(chunk outM (bwd c 20) 0).view.set]{fullShare} (chunk outM (bwd c 20) 0).view.rep (reduced m (bwd c 20) 0))
      ∗ ((chunk outM (bwd c 21) 0).view.loc (c : Thread nD τ) ↦[(chunk outM (bwd c 21) 0).view.set]{fullShare} (chunk outM (bwd c 21) 0).view.rep (reduced m (bwd c 21) 0))
      ∗ ((chunk outM (bwd c 22) 0).view.loc (c : Thread nD τ) ↦[(chunk outM (bwd c 22) 0).view.set]{fullShare} (chunk outM (bwd c 22) 0).view.rep (reduced m (bwd c 22) 0))
      ∗ ((chunk outM (bwd c 23) 0).view.loc (c : Thread nD τ) ↦[(chunk outM (bwd c 23) 0).view.set]{fullShare} (chunk outM (bwd c 23) 0).view.rep (reduced m (bwd c 23) 0))
      ∗ ((chunk outM (bwd c 24) 0).view.loc (c : Thread nD τ) ↦[(chunk outM (bwd c 24) 0).view.set]{fullShare} (chunk outM (bwd c 24) 0).view.rep (reduced m (bwd c 24) 0))
      ∗ ((chunk outM (bwd c 25) 0).view.loc (c : Thread nD τ) ↦[(chunk outM (bwd c 25) 0).view.set]{fullShare} (chunk outM (bwd c 25) 0).view.rep (reduced m (bwd c 25) 0))
      ∗ ((chunk outM (bwd c 26) 0).view.loc (c : Thread nD τ) ↦[(chunk outM (bwd c 26) 0).view.set]{fullShare} (chunk outM (bwd c 26) 0).view.rep (reduced m (bwd c 26) 0))
      ∗ ((chunk outM (bwd c 27) 0).view.loc (c : Thread nD τ) ↦[(chunk outM (bwd c 27) 0).view.set]{fullShare} (chunk outM (bwd c 27) 0).view.rep (reduced m (bwd c 27) 0))
      ∗ ((chunk outM (bwd c 28) 0).view.loc (c : Thread nD τ) ↦[(chunk outM (bwd c 28) 0).view.set]{fullShare} (chunk outM (bwd c 28) 0).view.rep (reduced m (bwd c 28) 0))
      ∗ ((chunk outM (bwd c 29) 0).view.loc (c : Thread nD τ) ↦[(chunk outM (bwd c 29) 0).view.set]{fullShare} (chunk outM (bwd c 29) 0).view.rep (reduced m (bwd c 29) 0))
      ∗ ((Memref.whole cc0_stg2_0).view.loc (c : Thread nD τ) ↦{fullShare} f2)
      ∗ owes (c : Thread nD τ) (owedAfter c 155) W
      ∗ (∀ r, (((chunk outM c 0).view.loc (c : Thread nD τ) ↦[(chunk outM c 0).view.set]{shr 0} (chunk outM c 0).view.rep (reduced m c 0))
        ∗ ((chunk outM (bwd c 1) 0).view.loc (c : Thread nD τ) ↦[(chunk outM (bwd c 1) 0).view.set]{fullShare} (chunk outM (bwd c 1) 0).view.rep (reduced m (bwd c 1) 0))
        ∗ ((chunk outM (bwd c 2) 0).view.loc (c : Thread nD τ) ↦[(chunk outM (bwd c 2) 0).view.set]{fullShare} (chunk outM (bwd c 2) 0).view.rep (reduced m (bwd c 2) 0))
        ∗ ((chunk outM (bwd c 3) 0).view.loc (c : Thread nD τ) ↦[(chunk outM (bwd c 3) 0).view.set]{fullShare} (chunk outM (bwd c 3) 0).view.rep (reduced m (bwd c 3) 0))
        ∗ ((chunk outM (bwd c 4) 0).view.loc (c : Thread nD τ) ↦[(chunk outM (bwd c 4) 0).view.set]{fullShare} (chunk outM (bwd c 4) 0).view.rep (reduced m (bwd c 4) 0))
        ∗ ((chunk outM (bwd c 5) 0).view.loc (c : Thread nD τ) ↦[(chunk outM (bwd c 5) 0).view.set]{fullShare} (chunk outM (bwd c 5) 0).view.rep (reduced m (bwd c 5) 0))
        ∗ ((chunk outM (bwd c 6) 0).view.loc (c : Thread nD τ) ↦[(chunk outM (bwd c 6) 0).view.set]{fullShare} (chunk outM (bwd c 6) 0).view.rep (reduced m (bwd c 6) 0))
        ∗ ((chunk outM (bwd c 7) 0).view.loc (c : Thread nD τ) ↦[(chunk outM (bwd c 7) 0).view.set]{fullShare} (chunk outM (bwd c 7) 0).view.rep (reduced m (bwd c 7) 0))
        ∗ ((chunk outM (bwd c 8) 0).view.loc (c : Thread nD τ) ↦[(chunk outM (bwd c 8) 0).view.set]{fullShare} (chunk outM (bwd c 8) 0).view.rep (reduced m (bwd c 8) 0))
        ∗ ((chunk outM (bwd c 9) 0).view.loc (c : Thread nD τ) ↦[(chunk outM (bwd c 9) 0).view.set]{fullShare} (chunk outM (bwd c 9) 0).view.rep (reduced m (bwd c 9) 0))
        ∗ ((chunk outM (bwd c 10) 0).view.loc (c : Thread nD τ) ↦[(chunk outM (bwd c 10) 0).view.set]{fullShare} (chunk outM (bwd c 10) 0).view.rep (reduced m (bwd c 10) 0))
        ∗ ((chunk outM (bwd c 11) 0).view.loc (c : Thread nD τ) ↦[(chunk outM (bwd c 11) 0).view.set]{fullShare} (chunk outM (bwd c 11) 0).view.rep (reduced m (bwd c 11) 0))
        ∗ ((chunk outM (bwd c 12) 0).view.loc (c : Thread nD τ) ↦[(chunk outM (bwd c 12) 0).view.set]{fullShare} (chunk outM (bwd c 12) 0).view.rep (reduced m (bwd c 12) 0))
        ∗ ((chunk outM (bwd c 13) 0).view.loc (c : Thread nD τ) ↦[(chunk outM (bwd c 13) 0).view.set]{fullShare} (chunk outM (bwd c 13) 0).view.rep (reduced m (bwd c 13) 0))
        ∗ ((chunk outM (bwd c 14) 0).view.loc (c : Thread nD τ) ↦[(chunk outM (bwd c 14) 0).view.set]{fullShare} (chunk outM (bwd c 14) 0).view.rep (reduced m (bwd c 14) 0))
        ∗ ((chunk outM (bwd c 15) 0).view.loc (c : Thread nD τ) ↦[(chunk outM (bwd c 15) 0).view.set]{fullShare} (chunk outM (bwd c 15) 0).view.rep (reduced m (bwd c 15) 0))
        ∗ ((chunk outM (bwd c 16) 0).view.loc (c : Thread nD τ) ↦[(chunk outM (bwd c 16) 0).view.set]{fullShare} (chunk outM (bwd c 16) 0).view.rep (reduced m (bwd c 16) 0))
        ∗ ((chunk outM (bwd c 17) 0).view.loc (c : Thread nD τ) ↦[(chunk outM (bwd c 17) 0).view.set]{fullShare} (chunk outM (bwd c 17) 0).view.rep (reduced m (bwd c 17) 0))
        ∗ ((chunk outM (bwd c 18) 0).view.loc (c : Thread nD τ) ↦[(chunk outM (bwd c 18) 0).view.set]{fullShare} (chunk outM (bwd c 18) 0).view.rep (reduced m (bwd c 18) 0))
        ∗ ((chunk outM (bwd c 19) 0).view.loc (c : Thread nD τ) ↦[(chunk outM (bwd c 19) 0).view.set]{fullShare} (chunk outM (bwd c 19) 0).view.rep (reduced m (bwd c 19) 0))
        ∗ ((chunk outM (bwd c 20) 0).view.loc (c : Thread nD τ) ↦[(chunk outM (bwd c 20) 0).view.set]{fullShare} (chunk outM (bwd c 20) 0).view.rep (reduced m (bwd c 20) 0))
        ∗ ((chunk outM (bwd c 21) 0).view.loc (c : Thread nD τ) ↦[(chunk outM (bwd c 21) 0).view.set]{fullShare} (chunk outM (bwd c 21) 0).view.rep (reduced m (bwd c 21) 0))
        ∗ ((chunk outM (bwd c 22) 0).view.loc (c : Thread nD τ) ↦[(chunk outM (bwd c 22) 0).view.set]{fullShare} (chunk outM (bwd c 22) 0).view.rep (reduced m (bwd c 22) 0))
        ∗ ((chunk outM (bwd c 23) 0).view.loc (c : Thread nD τ) ↦[(chunk outM (bwd c 23) 0).view.set]{fullShare} (chunk outM (bwd c 23) 0).view.rep (reduced m (bwd c 23) 0))
        ∗ ((chunk outM (bwd c 24) 0).view.loc (c : Thread nD τ) ↦[(chunk outM (bwd c 24) 0).view.set]{fullShare} (chunk outM (bwd c 24) 0).view.rep (reduced m (bwd c 24) 0))
        ∗ ((chunk outM (bwd c 25) 0).view.loc (c : Thread nD τ) ↦[(chunk outM (bwd c 25) 0).view.set]{fullShare} (chunk outM (bwd c 25) 0).view.rep (reduced m (bwd c 25) 0))
        ∗ ((chunk outM (bwd c 26) 0).view.loc (c : Thread nD τ) ↦[(chunk outM (bwd c 26) 0).view.set]{fullShare} (chunk outM (bwd c 26) 0).view.rep (reduced m (bwd c 26) 0))
        ∗ ((chunk outM (bwd c 27) 0).view.loc (c : Thread nD τ) ↦[(chunk outM (bwd c 27) 0).view.set]{fullShare} (chunk outM (bwd c 27) 0).view.rep (reduced m (bwd c 27) 0))
        ∗ ((chunk outM (bwd c 28) 0).view.loc (c : Thread nD τ) ↦[(chunk outM (bwd c 28) 0).view.set]{fullShare} (chunk outM (bwd c 28) 0).view.rep (reduced m (bwd c 28) 0))
        ∗ ((chunk outM (bwd c 29) 0).view.loc (c : Thread nD τ) ↦[(chunk outM (bwd c 29) 0).view.set]{fullShare} (chunk outM (bwd c 29) 0).view.rep (reduced m (bwd c 29) 0))
        ∗ ((chunk outM (bwd c 30) 0).view.loc (c : Thread nD τ) ↦[(chunk outM (bwd c 30) 0).view.set]{fullShare} (chunk outM (bwd c 30) 0).view.rep (reduced m (bwd c 30) 0))
        ∗ ((chunk outM (bwd c 31) 0).view.loc (c : Thread nD τ) ↦[(chunk outM (bwd c 31) 0).view.set]{fullShare} (chunk outM (bwd c 31) 0).view.rep (reduced m (bwd c 31) 0))
        ∗ (cellInv ER (sched m) (K (dmaCell c agR 0 30)) (dmaCell c agR 0 30) ∗ atPos ER (dmaCell c agR 0 30) 1 ∅ 0)
        ∗ (cellInv ER (sched m) (K (dmaCell c agR 0 31)) (dmaCell c agR 0 31) ∗ atPos ER (dmaCell c agR 0 31) 1 ∅ 0)
        ∗ ((Memref.whole cc0_stg2_0).view.loc (c : Thread nD τ) ↦{fullShare} stg2Mid m c f2)
        ∗ owes (c : Thread nD τ) (owedAfter c 155) (insert (SemLoc.dma (semAt (arr agR) 0 31), ()) (insert (SemLoc.dma (semAt (arr agR) 0 30), ()) (W)))) -∗ Q r))
      ⊢ wp frame (wpE (defs₀ (F := F)) 𝒱₀ c none) Set.univ (k0_part121 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3005 c1_i32_3836) Q := by
  unfold recvRes stg2Mid gathered
  iintro ⟨⟨#I30, A30, C30⟩, ⟨#I31, A31, C31⟩, #Hlev, Hown, G1, G2, G3, G4, G5, G6, G7, G8, G9, G10, G11, G12, G13, G14, G15, G16, G17, G18, G19, G20, G21, G22, G23, G24, G25, G26, G27, G28, G29, H2, HO, Hk⟩
  have hmw30 := mayWait_end (F := F) c (.dma (semAt (arr agR) 0 30))
  have hmw31 := mayWait_end (F := F) c (.dma (semAt (arr agR) 0 31))
  sl_exec_parts
  iapply (wp_load_widen 𝒱₀ c none Set.univ 0 rfl (fun d => reduced m d 0)) $$ [Hown G1 G2 G3 G4 G5 G6 G7 G8 G9 G10 G11 G12 G13 G14 G15 G16 G17 G18 G19 G20 G21 G22 G23 G24 G25 G26 G27 G28 G29 A30_pay1 A31_pay1]
  · isplitl [Hown]; · iexact Hown
    rw [ks_chain]
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    isplitl [G18]; · iexact G18
    isplitl [G19]; · iexact G19
    isplitl [G20]; · iexact G20
    isplitl [G21]; · iexact G21
    isplitl [G22]; · iexact G22
    isplitl [G23]; · iexact G23
    isplitl [G24]; · iexact G24
    isplitl [G25]; · iexact G25
    isplitl [G26]; · iexact G26
    isplitl [G27]; · iexact G27
    isplitl [G28]; · iexact G28
    isplitl [G29]; · iexact G29
    isplitl [A30_pay1]; · iexact A30_pay1
    iexact A31_pay1
  iintro ⟨Hown, Gall⟩
  sl_exec_parts
  sl_step
  sl_unfold_run_names
  ihave Gall := (Entails.of_eq (ks_chain _)) $$ Gall
  icases Gall with ⟨S1, S2, S3, S4, S5, S6, S7, S8, S9, S10, S11, S12, S13, S14, S15, S16, S17, S18, S19, S20, S21, S22, S23, S24, S25, S26, S27, S28, S29, S30, S31⟩
  iapply Hk
  isplitl [Hown]; · iexact Hown
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [A30]; · (isplitr; · iexact I30); iexact A30
  isplitl [A31]; · (isplitr; · iexact I31); iexact A31
  isplitl [H2]; · iexact H2
  iexact HO

end Cert.KernelIdeal.AllReduce

end
-- ==== Proof.ResultStores.lean ====
/-
  The result's staging buffer after its two half stores is the result array: the two 1024 x 512 blocks stored side by side
  cover it, so what it held before is gone.
-/
import proofs.«900438_g7700000000000439_dist_gemm_ar_m1024_k1024_n1024_f32_gelu_v7x_i32_1_alg».proof.Proof.Protocol
import Idealize.ShloMosaic.Lib.Writes
import Idealize.ShloMosaic.Lib.ValueIdx

noncomputable section

namespace Cert.KernelIdeal.Regions

open Cert.KernelIdeal Cert.KernelIdeal.Gen Cert.KernelIdeal.AllReduce
open Idealize.ShloMosaic
open Idealize.ShloMosaic.TcCoe
open Idealize.ShloMosaic.ValueIdx (ix2 eq_ix2)

/-- The result's staging buffer. -/
abbrev stgM : Memref sig .tc .vmem S1024x1024 .f32 := Memref.whole cc0_stg2_0

section
variable {Val : EltTy → Type}

/-- Two 1024 x 512 blocks of f32 side by side. -/
def sideBySide32 (P0 P1 : S1024x512.Idx → Val .f32) : S1024x1024.Idx → Val .f32 := fun i =>
  if hlt : (i 1).val < 512 then P0 (ix2 (i 0) ⟨(i 1).val, hlt⟩)
  else P1 (ix2 (i 0) ⟨(i 1).val - 512, by have h1 : (i 1).val < 1024 := (i 1).isLt; omega⟩)

theorem left_piece32 (P0 P1 : S1024x512.Idx → Val .f32) (inb0 : ∀ a, (![0, 0] : Fin 2 → Nat) a + S1024x512.size a ≤ S1024x1024.size a)
    (x : (Rect.unit (s := S1024x1024) ![0, 0] S1024x512.size inb0).shape.Idx) :
    P0 x = sideBySide32 P0 P1 ((Rect.unit (s := S1024x1024) ![0, 0] S1024x512.size inb0).emb x) := by
  have hx1 : (x 1).val < 512 := (x 1).isLt
  have hlt : (((Rect.unit (s := S1024x1024) ![0, 0] S1024x512.size inb0).emb x) 1).val < 512 := by
    show 0 + 1 * (x 1).val < 512; omega
  unfold sideBySide32
  rw [dif_pos hlt]
  refine congrArg P0 (funext fun a => Fin.ext ?_)
  match a with
  | ⟨0, _⟩ => show (x 0).val = 0 + 1 * (x 0).val; omega
  | ⟨1, _⟩ => show (x 1).val = 0 + 1 * (x 1).val; omega

theorem right_piece32 (P0 P1 : S1024x512.Idx → Val .f32) (inb1 : ∀ a, (![0, 512] : Fin 2 → Nat) a + S1024x512.size a ≤ S1024x1024.size a)
    (x : (Rect.unit (s := S1024x1024) ![0, 512] S1024x512.size inb1).shape.Idx) :
    P1 x = sideBySide32 P0 P1 ((Rect.unit (s := S1024x1024) ![0, 512] S1024x512.size inb1).emb x) := by
  have hx1 : (x 1).val < 512 := (x 1).isLt
  have hge : ¬ (((Rect.unit (s := S1024x1024) ![0, 512] S1024x512.size inb1).emb x) 1).val < 512 := by
    show ¬ (512 + 1 * (x 1).val < 512); omega
  unfold sideBySide32
  rw [dif_neg hge]
  refine congrArg P1 (funext fun a => Fin.ext ?_)
  match a with
  | ⟨0, _⟩ => show (x 0).val = 0 + 1 * (x 0).val; omega
  | ⟨1, _⟩ => show (x 1).val = 512 + 1 * (x 1).val - 512; omega

/-- The staging buffer after the two half stores (the later store first in the list) holds the blocks side by side. -/
theorem stg_writes_both (f : stgM.view.ty.Contents Val) (P0 P1 : S1024x512.Idx → Val .f32)
    (inb0 : ∀ a, (![0, 0] : Fin 2 → Nat) a + S1024x512.size a ≤ S1024x1024.size a)
    (inb1 : ∀ a, (![0, 512] : Fin 2 → Nat) a + S1024x512.size a ≤ S1024x1024.size a) :
    stgM.view.writes Val f
        [⟨Rect.unit (s := S1024x1024) ![0, 512] S1024x512.size inb1, P1⟩, ⟨Rect.unit (s := S1024x1024) ![0, 0] S1024x512.size inb0, P0⟩]
      = sideBySide32 P0 P1 := by
  funext y
  refine (congrFun (View.read_whole (Val := Val) cc0_stg2_0
    (stgM.view.writes Val f
      [⟨Rect.unit (s := S1024x1024) ![0, 512] S1024x512.size inb1, P1⟩, ⟨Rect.unit (s := S1024x1024) ![0, 0] S1024x512.size inb0, P0⟩])) y).symm.trans ?_
  refine View.read_writes_apply_of_pieces (v := stgM.view) (Val := Val) f (sideBySide32 P0 P1)
    [⟨Rect.unit (s := S1024x1024) ![0, 512] S1024x512.size inb1, P1⟩, ⟨Rect.unit (s := S1024x1024) ![0, 0] S1024x512.size inb0, P0⟩] ?_ y ?_
  · intro p hp x
    rcases List.mem_cons.mp hp with rfl | hp
    · exact right_piece32 P0 P1 inb1 x
    · obtain rfl : p = ⟨Rect.unit (s := S1024x1024) ![0, 0] S1024x512.size inb0, P0⟩ := List.mem_singleton.mp hp
      exact left_piece32 P0 P1 inb0 x
  · have hy0 : (y 0).val < 1024 := (y 0).isLt
    have hy1 : (y 1).val < 1024 := (y 1).isLt
    by_cases hh : (y 1).val < 512
    · refine ⟨⟨Rect.unit (s := S1024x1024) ![0, 0] S1024x512.size inb0, P0⟩, List.mem_cons_of_mem _ (List.mem_singleton.mpr rfl), ?_⟩
      show y ∈ (Rect.unit (s := S1024x1024) ![0, 0] S1024x512.size inb0).set
      rw [Rect.mem_set_unit]
      intro a
      match a with
      | ⟨0, _⟩ => show 0 ≤ (y 0).val ∧ (y 0).val < 0 + 1024; omega
      | ⟨1, _⟩ => show 0 ≤ (y 1).val ∧ (y 1).val < 0 + 512; omega
    · refine ⟨⟨Rect.unit (s := S1024x1024) ![0, 512] S1024x512.size inb1, P1⟩, List.mem_cons_self, ?_⟩
      show y ∈ (Rect.unit (s := S1024x1024) ![0, 512] S1024x512.size inb1).set
      rw [Rect.mem_set_unit]
      intro a
      match a with
      | ⟨0, _⟩ => show 0 ≤ (y 0).val ∧ (y 0).val < 0 + 1024; omega
      | ⟨1, _⟩ => show 512 ≤ (y 1).val ∧ (y 1).val < 512 + 512; omega

/-- The same as two nested whole writes through the two rectangles. -/
theorem stg_write_write (f : stgM.view.ty.Contents Val) (P0 P1 : S1024x512.Idx → Val .f32)
    (inb0 : ∀ a, (![0, 0] : Fin 2 → Nat) a + S1024x512.size a ≤ S1024x1024.size a)
    (inb1 : ∀ a, (![0, 512] : Fin 2 → Nat) a + S1024x512.size a ≤ S1024x1024.size a) :
    (stgM.access (Rect.unit (s := S1024x1024) ![0, 512] S1024x512.size inb1)).write Val
        ((stgM.access (Rect.unit (s := S1024x1024) ![0, 0] S1024x512.size inb0)).write Val f P0 Finset.univ) P1 Finset.univ
      = sideBySide32 P0 P1 :=
  stg_writes_both f P0 P1 inb0 inb1

end

section
variable {F : FTy → Type} [FloatOps F]

/-- The two halves widened, side by side, are the result array. -/
theorem sideBySide32_result (m : (ℓ : Loc nD τ sig) → Buf (Elt F) ℓ) :
    sideBySide32 (Val := Elt F) (k0_pay12 (gathered m 0)) (k0_pay13 (gathered m 1)) = result m := rfl

/-- THE RESULT'S STAGING BUFFER after the two half stores is the result array (list form, as the stores leave it). -/
theorem result_writes (m : (ℓ : Loc nD τ sig) → Buf (Elt F) ℓ) (f2 : stgM.view.ty.Contents (Elt F))
    (inb0 : ∀ a, (![0, 0] : Fin 2 → Nat) a + S1024x512.size a ≤ S1024x1024.size a)
    (inb1 : ∀ a, (![0, 512] : Fin 2 → Nat) a + S1024x512.size a ≤ S1024x1024.size a) :
    stgM.view.writes (Elt F) f2
        [⟨Rect.unit (s := S1024x1024) ![0, 512] S1024x512.size inb1, k0_pay13 (gathered m 1)⟩,
          ⟨Rect.unit (s := S1024x1024) ![0, 0] S1024x512.size inb0, k0_pay12 (gathered m 0)⟩]
      = result m :=
  (stg_writes_both f2 _ _ inb0 inb1).trans (sideBySide32_result m)

/-- … and in the form of two nested writes. -/
theorem result_stores (m : (ℓ : Loc nD τ sig) → Buf (Elt F) ℓ) (f2 : stgM.view.ty.Contents (Elt F))
    (inb0 : ∀ a, (![0, 0] : Fin 2 → Nat) a + S1024x512.size a ≤ S1024x1024.size a)
    (inb1 : ∀ a, (![0, 512] : Fin 2 → Nat) a + S1024x512.size a ≤ S1024x1024.size a) :
    (stgM.access (Rect.unit (s := S1024x1024) ![0, 512] S1024x512.size inb1)).write (Elt F)
        ((stgM.access (Rect.unit (s := S1024x1024) ![0, 0] S1024x512.size inb0)).write (Elt F) f2 (k0_pay12 (gathered m 0)) Finset.univ)
        (k0_pay13 (gathered m 1)) Finset.univ
      = result m :=
  (stg_write_write f2 _ _ inb0 inb1).trans (sideBySide32_result m)

end

/-- info: 'Cert.KernelIdeal.Regions.result_stores' depends on axioms: [propext, Classical.choice, Quot.sound] -/
#guard_msgs in #print axioms result_stores

/-- info: 'Cert.KernelIdeal.Regions.result_writes' depends on axioms: [propext, Classical.choice, Quot.sound] -/
#guard_msgs in #print axioms result_writes

end Cert.KernelIdeal.Regions

end
-- ==== Proof.BodyPart134.lean ====
/-
  Half 1 of the gather buffer widened into the result: the result is complete.
-/
import proofs.«900438_g7700000000000439_dist_gemm_ar_m1024_k1024_n1024_f32_gelu_v7x_i32_1_alg».proof.Proof.BodyPart121
import proofs.«900438_g7700000000000439_dist_gemm_ar_m1024_k1024_n1024_f32_gelu_v7x_i32_1_alg».proof.Proof.ResultStores
noncomputable section
namespace Cert.KernelIdeal.AllReduce
open Cert.KernelIdeal Cert.KernelIdeal.Gen Cert.KernelIdeal.Regions
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_agR pay_agS in
set_option maxHeartbeats 8000000 in
/-- The last two receive waits of the gather phase for half 1, the read of the whole half of the gather buffer, and its widening into the result; then the first send wait of the gather phase. -/
theorem part134_spec (c : Dev nD) (v2 : BitVec 32) (v3349 : BitVec 32) (f2 : Buf (Elt F) ((c : Thread nD τ).loc cc0_stg2_0)) (W : Waits sig Unit) (Q : (PUnit) → sProp 𝕄) :
    iprop(recvRes m K agR c 1 30
      ∗ recvRes m K agR c 1 31
      ∗ recvRes m K agS c 0 1
      ∗ levAts L lv
      ∗ ((chunk outM c 1).view.loc (c : Thread nD τ) ↦[(chunk outM c 1).view.set]{shr 0} (chunk outM c 1).view.rep (reduced m c 1))
      ∗ ((chunk outM (bwd c 1) 1).view.loc (c : Thread nD τ) ↦[(chunk outM (bwd c 1) 1).view.set]{fullShare} (chunk outM (bwd c 1) 1).view.rep (reduced m (bwd c 1) 1))
      ∗ ((chunk outM (bwd c 2) 1).view.loc (c : Thread nD τ) ↦[(chunk outM (bwd c 2) 1).view.set]{fullShare} (chunk outM (bwd c 2) 1).view.rep (reduced m (bwd c 2) 1))
      ∗ ((chunk outM (bwd c 3) 1).view.loc (c : Thread nD τ) ↦[(chunk outM (bwd c 3) 1).view.set]{fullShare} (chunk outM (bwd c 3) 1).view.rep (reduced m (bwd c 3) 1))
      ∗ ((chunk outM (bwd c 4) 1).view.loc (c : Thread nD τ) ↦[(chunk outM (bwd c 4) 1).view.set]{fullShare} (chunk outM (bwd c 4) 1).view.rep (reduced m (bwd c 4) 1))
      ∗ ((chunk outM (bwd c 5) 1).view.loc (c : Thread nD τ) ↦[(chunk outM (bwd c 5) 1).view.set]{fullShare} (chunk outM (bwd c 5) 1).view.rep (reduced m (bwd c 5) 1))
      ∗ ((chunk outM (bwd c 6) 1).view.loc (c : Thread nD τ) ↦[(chunk outM (bwd c 6) 1).view.set]{fullShare} (chunk outM (bwd c 6) 1).view.rep (reduced m (bwd c 6) 1))
      ∗ ((chunk outM (bwd c 7) 1).view.loc (c : Thread nD τ) ↦[(chunk outM (bwd c 7) 1).view.set]{fullShare} (chunk outM (bwd c 7) 1).view.rep (reduced m (bwd c 7) 1))
      ∗ ((chunk outM (bwd c 8) 1).view.loc (c : Thread nD τ) ↦[(chunk outM (bwd c 8) 1).view.set]{fullShare} (chunk outM (bwd c 8) 1).view.rep (reduced m (bwd c 8) 1))
      ∗ ((chunk outM (bwd c 9) 1).view.loc (c : Thread nD τ) ↦[(chunk outM (bwd c 9) 1).view.set]{fullShare} (chunk outM (bwd c 9) 1).view.rep (reduced m (bwd c 9) 1))
      ∗ ((chunk outM (bwd c 10) 1).view.loc (c : Thread nD τ) ↦[(chunk outM (bwd c 10) 1).view.set]{fullShare} (chunk outM (bwd c 10) 1).view.rep (reduced m (bwd c 10) 1))
      ∗ ((chunk outM (bwd c 11) 1).view.loc (c : Thread nD τ) ↦[(chunk outM (bwd c 11) 1).view.set]{fullShare} (chunk outM (bwd c 11) 1).view.rep (reduced m (bwd c 11) 1))
      ∗ ((chunk outM (bwd c 12) 1).view.loc (c : Thread nD τ) ↦[(chunk outM (bwd c 12) 1).view.set]{fullShare} (chunk outM (bwd c 12) 1).view.rep (reduced m (bwd c 12) 1))
      ∗ ((chunk outM (bwd c 13) 1).view.loc (c : Thread nD τ) ↦[(chunk outM (bwd c 13) 1).view.set]{fullShare} (chunk outM (bwd c 13) 1).view.rep (reduced m (bwd c 13) 1))
      ∗ ((chunk outM (bwd c 14) 1).view.loc (c : Thread nD τ) ↦[(chunk outM (bwd c 14) 1).view.set]{fullShare} (chunk outM (bwd c 14) 1).view.rep (reduced m (bwd c 14) 1))
      ∗ ((chunk outM (bwd c 15) 1).view.loc (c : Thread nD τ) ↦[(chunk outM (bwd c 15) 1).view.set]{fullShare} (chunk outM (bwd c 15) 1).view.rep (reduced m (bwd c 15) 1))
      ∗ ((chunk outM (bwd c 16) 1).view.loc (c : Thread nD τ) ↦[(chunk outM (bwd c 16) 1).view.set]{fullShare} (chunk outM (bwd c 16) 1).view.rep (reduced m (bwd c 16) 1))
      ∗ ((chunk outM (bwd c 17) 1).view.loc (c : Thread nD τ) ↦[(chunk outM (bwd c 17) 1).view.set]{fullShare} (chunk outM (bwd c 17) 1).view.rep (reduced m (bwd c 17) 1))
      ∗ ((chunk outM (bwd c 18) 1).view.loc (c : Thread nD τ) ↦[(chunk outM (bwd c 18) 1).view.set]{fullShare} (chunk outM (bwd c 18) 1).view.rep (reduced m (bwd c 18) 1))
      ∗ ((chunk outM (bwd c 19) 1).view.loc (c : Thread nD τ) ↦[(chunk outM (bwd c 19) 1).view.set]{fullShare} (chunk outM (bwd c 19) 1).view.rep (reduced m (bwd c 19) 1))
      ∗ ((chunk outM (bwd c 20) 1).view.loc (c : Thread nD τ) ↦[(chunk outM (bwd c 20) 1).view.set]{fullShare} (chunk outM (bwd c 20) 1).view.rep (reduced m (bwd c 20) 1))
      ∗ ((chunk outM (bwd c 21) 1).view.loc (c : Thread nD τ) ↦[(chunk outM (bwd c 21) 1).view.set]{fullShare} (chunk outM (bwd c 21) 1).view.rep (reduced m (bwd c 21) 1))
      ∗ ((chunk outM (bwd c 22) 1).view.loc (c : Thread nD τ) ↦[(chunk outM (bwd c 22) 1).view.set]{fullShare} (chunk outM (bwd c 22) 1).view.rep (reduced m (bwd c 22) 1))
      ∗ ((chunk outM (bwd c 23) 1).view.loc (c : Thread nD τ) ↦[(chunk outM (bwd c 23) 1).view.set]{fullShare} (chunk outM (bwd c 23) 1).view.rep (reduced m (bwd c 23) 1))
      ∗ ((chunk outM (bwd c 24) 1).view.loc (c : Thread nD τ) ↦[(chunk outM (bwd c 24) 1).view.set]{fullShare} (chunk outM (bwd c 24) 1).view.rep (reduced m (bwd c 24) 1))
      ∗ ((chunk outM (bwd c 25) 1).view.loc (c : Thread nD τ) ↦[(chunk outM (bwd c 25) 1).view.set]{fullShare} (chunk outM (bwd c 25) 1).view.rep (reduced m (bwd c 25) 1))
      ∗ ((chunk outM (bwd c 26) 1).view.loc (c : Thread nD τ) ↦[(chunk outM (bwd c 26) 1).view.set]{fullShare} (chunk outM (bwd c 26) 1).view.rep (reduced m (bwd c 26) 1))
      ∗ ((chunk outM (bwd c 27) 1).view.loc (c : Thread nD τ) ↦[(chunk outM (bwd c 27) 1).view.set]{fullShare} (chunk outM (bwd c 27) 1).view.rep (reduced m (bwd c 27) 1))
      ∗ ((chunk outM (bwd c 28) 1).view.loc (c : Thread nD τ) ↦[(chunk outM (bwd c 28) 1).view.set]{fullShare} (chunk outM (bwd c 28) 1).view.rep (reduced m (bwd c 28) 1))
      ∗ ((chunk outM (bwd c 29) 1).view.loc (c : Thread nD τ) ↦[(chunk outM (bwd c 29) 1).view.set]{fullShare} (chunk outM (bwd c 29) 1).view.rep (reduced m (bwd c 29) 1))
      ∗ ((Memref.whole cc0_stg2_0).view.loc (c : Thread nD τ) ↦{fullShare} stg2Mid m c f2)
      ∗ owes (c : Thread nD τ) (owedAfter c 155) W
      ∗ (∀ r, (((chunk outM c 1).view.loc (c : Thread nD τ) ↦[(chunk outM c 1).view.set]{shr 0} (chunk outM c 1).view.rep (reduced m c 1))
        ∗ ((chunk outM (bwd c 1) 1).view.loc (c : Thread nD τ) ↦[(chunk outM (bwd c 1) 1).view.set]{fullShare} (chunk outM (bwd c 1) 1).view.rep (reduced m (bwd c 1) 1))
        ∗ ((chunk outM (bwd c 2) 1).view.loc (c : Thread nD τ) ↦[(chunk outM (bwd c 2) 1).view.set]{fullShare} (chunk outM (bwd c 2) 1).view.rep (reduced m (bwd c 2) 1))
        ∗ ((chunk outM (bwd c 3) 1).view.loc (c : Thread nD τ) ↦[(chunk outM (bwd c 3) 1).view.set]{fullShare} (chunk outM (bwd c 3) 1).view.rep (reduced m (bwd c 3) 1))
        ∗ ((chunk outM (bwd c 4) 1).view.loc (c : Thread nD τ) ↦[(chunk outM (bwd c 4) 1).view.set]{fullShare} (chunk outM (bwd c 4) 1).view.rep (reduced m (bwd c 4) 1))
        ∗ ((chunk outM (bwd c 5) 1).view.loc (c : Thread nD τ) ↦[(chunk outM (bwd c 5) 1).view.set]{fullShare} (chunk outM (bwd c 5) 1).view.rep (reduced m (bwd c 5) 1))
        ∗ ((chunk outM (bwd c 6) 1).view.loc (c : Thread nD τ) ↦[(chunk outM (bwd c 6) 1).view.set]{fullShare} (chunk outM (bwd c 6) 1).view.rep (reduced m (bwd c 6) 1))
        ∗ ((chunk outM (bwd c 7) 1).view.loc (c : Thread nD τ) ↦[(chunk outM (bwd c 7) 1).view.set]{fullShare} (chunk outM (bwd c 7) 1).view.rep (reduced m (bwd c 7) 1))
        ∗ ((chunk outM (bwd c 8) 1).view.loc (c : Thread nD τ) ↦[(chunk outM (bwd c 8) 1).view.set]{fullShare} (chunk outM (bwd c 8) 1).view.rep (reduced m (bwd c 8) 1))
        ∗ ((chunk outM (bwd c 9) 1).view.loc (c : Thread nD τ) ↦[(chunk outM (bwd c 9) 1).view.set]{fullShare} (chunk outM (bwd c 9) 1).view.rep (reduced m (bwd c 9) 1))
        ∗ ((chunk outM (bwd c 10) 1).view.loc (c : Thread nD τ) ↦[(chunk outM (bwd c 10) 1).view.set]{fullShare} (chunk outM (bwd c 10) 1).view.rep (reduced m (bwd c 10) 1))
        ∗ ((chunk outM (bwd c 11) 1).view.loc (c : Thread nD τ) ↦[(chunk outM (bwd c 11) 1).view.set]{fullShare} (chunk outM (bwd c 11) 1).view.rep (reduced m (bwd c 11) 1))
        ∗ ((chunk outM (bwd c 12) 1).view.loc (c : Thread nD τ) ↦[(chunk outM (bwd c 12) 1).view.set]{fullShare} (chunk outM (bwd c 12) 1).view.rep (reduced m (bwd c 12) 1))
        ∗ ((chunk outM (bwd c 13) 1).view.loc (c : Thread nD τ) ↦[(chunk outM (bwd c 13) 1).view.set]{fullShare} (chunk outM (bwd c 13) 1).view.rep (reduced m (bwd c 13) 1))
        ∗ ((chunk outM (bwd c 14) 1).view.loc (c : Thread nD τ) ↦[(chunk outM (bwd c 14) 1).view.set]{fullShare} (chunk outM (bwd c 14) 1).view.rep (reduced m (bwd c 14) 1))
        ∗ ((chunk outM (bwd c 15) 1).view.loc (c : Thread nD τ) ↦[(chunk outM (bwd c 15) 1).view.set]{fullShare} (chunk outM (bwd c 15) 1).view.rep (reduced m (bwd c 15) 1))
        ∗ ((chunk outM (bwd c 16) 1).view.loc (c : Thread nD τ) ↦[(chunk outM (bwd c 16) 1).view.set]{fullShare} (chunk outM (bwd c 16) 1).view.rep (reduced m (bwd c 16) 1))
        ∗ ((chunk outM (bwd c 17) 1).view.loc (c : Thread nD τ) ↦[(chunk outM (bwd c 17) 1).view.set]{fullShare} (chunk outM (bwd c 17) 1).view.rep (reduced m (bwd c 17) 1))
        ∗ ((chunk outM (bwd c 18) 1).view.loc (c : Thread nD τ) ↦[(chunk outM (bwd c 18) 1).view.set]{fullShare} (chunk outM (bwd c 18) 1).view.rep (reduced m (bwd c 18) 1))
        ∗ ((chunk outM (bwd c 19) 1).view.loc (c : Thread nD τ) ↦[(chunk outM (bwd c 19) 1).view.set]{fullShare} (chunk outM (bwd c 19) 1).view.rep (reduced m (bwd c 19) 1))
        ∗ ((chunk outM (bwd c 20) 1).view.loc (c : Thread nD τ) ↦[(chunk outM (bwd c 20) 1).view.set]{fullShare} (chunk outM (bwd c 20) 1).view.rep (reduced m (bwd c 20) 1))
        ∗ ((chunk outM (bwd c 21) 1).view.loc (c : Thread nD τ) ↦[(chunk outM (bwd c 21) 1).view.set]{fullShare} (chunk outM (bwd c 21) 1).view.rep (reduced m (bwd c 21) 1))
        ∗ ((chunk outM (bwd c 22) 1).view.loc (c : Thread nD τ) ↦[(chunk outM (bwd c 22) 1).view.set]{fullShare} (chunk outM (bwd c 22) 1).view.rep (reduced m (bwd c 22) 1))
        ∗ ((chunk outM (bwd c 23) 1).view.loc (c : Thread nD τ) ↦[(chunk outM (bwd c 23) 1).view.set]{fullShare} (chunk outM (bwd c 23) 1).view.rep (reduced m (bwd c 23) 1))
        ∗ ((chunk outM (bwd c 24) 1).view.loc (c : Thread nD τ) ↦[(chunk outM (bwd c 24) 1).view.set]{fullShare} (chunk outM (bwd c 24) 1).view.rep (reduced m (bwd c 24) 1))
        ∗ ((chunk outM (bwd c 25) 1).view.loc (c : Thread nD τ) ↦[(chunk outM (bwd c 25) 1).view.set]{fullShare} (chunk outM (bwd c 25) 1).view.rep (reduced m (bwd c 25) 1))
        ∗ ((chunk outM (bwd c 26) 1).view.loc (c : Thread nD τ) ↦[(chunk outM (bwd c 26) 1).view.set]{fullShare} (chunk outM (bwd c 26) 1).view.rep (reduced m (bwd c 26) 1))
        ∗ ((chunk outM (bwd c 27) 1).view.loc (c : Thread nD τ) ↦[(chunk outM (bwd c 27) 1).view.set]{fullShare} (chunk outM (bwd c 27) 1).view.rep (reduced m (bwd c 27) 1))
        ∗ ((chunk outM (bwd c 28) 1).view.loc (c : Thread nD τ) ↦[(chunk outM (bwd c 28) 1).view.set]{fullShare} (chunk outM (bwd c 28) 1).view.rep (reduced m (bwd c 28) 1))
        ∗ ((chunk outM (bwd c 29) 1).view.loc (c : Thread nD τ) ↦[(chunk outM (bwd c 29) 1).view.set]{fullShare} (chunk outM (bwd c 29) 1).view.rep (reduced m (bwd c 29) 1))
        ∗ ((chunk outM (bwd c 30) 1).view.loc (c : Thread nD τ) ↦[(chunk outM (bwd c 30) 1).view.set]{fullShare} (chunk outM (bwd c 30) 1).view.rep (reduced m (bwd c 30) 1))
        ∗ ((chunk outM (bwd c 31) 1).view.loc (c : Thread nD τ) ↦[(chunk outM (bwd c 31) 1).view.set]{fullShare} (chunk outM (bwd c 31) 1).view.rep (reduced m (bwd c 31) 1))
        ∗ (cellInv ER (sched m) (K (dmaCell c agR 1 30)) (dmaCell c agR 1 30) ∗ atPos ER (dmaCell c agR 1 30) 1 ∅ 0)
        ∗ (cellInv ER (sched m) (K (dmaCell c agR 1 31)) (dmaCell c agR 1 31) ∗ atPos ER (dmaCell c agR 1 31) 1 ∅ 0)
        ∗ ((Memref.whole cc0_stg2_0).view.loc (c : Thread nD τ) ↦{fullShare} result m)
        ∗ ((chunk outM c 0).view.loc (c : Thread nD τ) ↦[(chunk outM c 0).view.set]{shr 1} (chunk outM c 0).view.rep (reduced m c 0))
        ∗ (cellInv ER (sched m) (K (dmaCell c agS 0 1)) (dmaCell c agS 0 1) ∗ atPos ER (dmaCell c agS 0 1) 1 ∅ 0)
        ∗ owes (c : Thread nD τ) (owedAfter c 155) (insert (SemLoc.dma (semAt (arr agS) 0 1), ()) (insert (SemLoc.dma (semAt (arr agR) 1 31), ()) (insert (SemLoc.dma (semAt (arr agR) 1 30), ()) (W))))) -∗ Q r))
      ⊢ wp frame (wpE (defs₀ (F := F)) 𝒱₀ c none) Set.univ (k0_part134 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3349) Q := by
  unfold recvRes stg2Mid gathered
  iintro ⟨⟨#I30, A30, C30⟩, ⟨#I31, A31, C31⟩, ⟨#IX, AX, CX⟩, #Hlev, Hown, G1, G2, G3, G4, G5, G6, G7, G8, G9, G10, G11, G12, G13, G14, G15, G16, G17, G18, G19, G20, G21, G22, G23, G24, G25, G26, G27, G28, G29, H2, HO, Hk⟩
  have hmw30 := mayWait_end (F := F) c (.dma (semAt (arr agR) 1 30))
  have hmw31 := mayWait_end (F := F) c (.dma (semAt (arr agR) 1 31))
  have hmwX := mayWait_end (F := F) c (.dma (semAt (arr agS) 0 1))
  sl_exec_parts
  iapply (wp_load_widen 𝒱₀ c none Set.univ 1 rfl (fun d => reduced m d 1)) $$ [Hown G1 G2 G3 G4 G5 G6 G7 G8 G9 G10 G11 G12 G13 G14 G15 G16 G17 G18 G19 G20 G21 G22 G23 G24 G25 G26 G27 G28 G29 A30_pay1 A31_pay1]
  · isplitl [Hown]; · iexact Hown
    rw [ks_chain]
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    isplitl [G18]; · iexact G18
    isplitl [G19]; · iexact G19
    isplitl [G20]; · iexact G20
    isplitl [G21]; · iexact G21
    isplitl [G22]; · iexact G22
    isplitl [G23]; · iexact G23
    isplitl [G24]; · iexact G24
    isplitl [G25]; · iexact G25
    isplitl [G26]; · iexact G26
    isplitl [G27]; · iexact G27
    isplitl [G28]; · iexact G28
    isplitl [G29]; · iexact G29
    isplitl [A30_pay1]; · iexact A30_pay1
    iexact A31_pay1
  iintro ⟨Hown, Gall⟩
  sl_exec_parts
  sl_step
  sl_unfold_run_names
  ihave Gall := (Entails.of_eq (ks_chain _)) $$ Gall
  icases Gall with ⟨S1, S2, S3, S4, S5, S6, S7, S8, S9, S10, S11, S12, S13, S14, S15, S16, S17, S18, S19, S20, S21, S22, S23, S24, S25, S26, S27, S28, S29, S30, S31⟩
  have hw : stgM.view.writes (Elt F) (stg2Mid m c f2) [⟨Rect.unit (s := S1024x1024) ![0, 512] S1024x512.size inb_S1024x1024_S1024x512_0_512, k0_pay13 (gathered m 1)⟩] = result m := by
    unfold stg2Mid
    exact result_stores (F := F) m f2 inb_S1024x1024_S1024x512_0_0 inb_S1024x1024_S1024x512_0_512
  have e : (((Memref.whole cc0_stg2_0).view.loc (c : Thread nD τ) ↦{fullShare} stgM.view.writes (Elt F) (stg2Mid m c f2) [⟨Rect.unit (s := S1024x1024) ![0, 512] S1024x512.size inb_S1024x1024_S1024x512_0_512, k0_pay13 (gathered m 1)⟩]) : sProp 𝕄) = ((Memref.whole cc0_stg2_0).view.loc (c : Thread nD τ) ↦{fullShare} result m) := by
    rw [hw]
  unfold stg2Mid gathered at e
  ihave H2 := (Entails.of_eq e) $$ H2
  iapply Hk
  isplitl [Hown]; · iexact Hown
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [A30]; · (isplitr; · iexact I30); iexact A30
  isplitl [A31]; · (isplitr; · iexact I31); iexact A31
  isplitl [H2]; · iexact H2
  isplitl [AX_pay1]; · iexact AX_pay1
  isplitl [AX]; · (isplitr; · iexact IX); iexact AX
  iexact HO

end Cert.KernelIdeal.AllReduce

end
-- ==== Proof.BodyRegroup.lean ====
import proofs.«900438_g7700000000000439_dist_gemm_ar_m1024_k1024_n1024_f32_gelu_v7x_i32_1_alg».proof.Proof.BodyRes
import proofs.«900438_g7700000000000439_dist_gemm_ar_m1024_k1024_n1024_f32_gelu_v7x_i32_1_alg».proof.Proof.BodyGlue
import proofs.«900438_g7700000000000439_dist_gemm_ar_m1024_k1024_n1024_f32_gelu_v7x_i32_1_alg».proof.Proof.LaunchCells
import proofs.«900438_g7700000000000439_dist_gemm_ar_m1024_k1024_n1024_f32_gelu_v7x_i32_1_alg».proof.Proof.RegionSplit
import proofs.«900438_g7700000000000439_dist_gemm_ar_m1024_k1024_n1024_f32_gelu_v7x_i32_1_alg».proof.Proof.GatherShares

noncomputable section

namespace Cert.KernelIdeal.AllReduce

open Cert.KernelIdeal Cert.KernelIdeal.Gen Cert.KernelIdeal.Regions

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-! ## The 64 pieces of a scratch buffer, listed by offset from this device -/

/-- The offsets turned round: slot s is the one the device opp s places on fills. -/
def oppE : Fin 32 ≃ Fin 32 := ⟨opp, opp, opp_opp, opp_opp⟩

omit [FloatOps F] in
theorem fwd_sub : ∀ (c d : Fin 32), fwd c ⟨(d.val + 32 - c.val) % 32, Nat.mod_lt _ (by decide)⟩ = d := by decide +kernel
omit [FloatOps F] in
theorem sub_fwd : ∀ (c k : Fin 32), (⟨((fwd c k).val + 32 - c.val) % 32, Nat.mod_lt _ (by decide)⟩ : Fin 32) = k := by decide +kernel
omit [FloatOps F] in
theorem bwd_sub : ∀ (c d : Fin 32), bwd c ⟨(c.val + 32 - d.val) % 32, Nat.mod_lt _ (by decide)⟩ = d := by decide +kernel
omit [FloatOps F] in
theorem sub_bwd : ∀ (c k : Fin 32), (⟨(c.val + 32 - (bwd c k).val) % 32, Nat.mod_lt _ (by decide)⟩ : Fin 32) = k := by decide +kernel

/-- Offset k to the device k places on, -/
def fwdE (c : Fin 32) : Fin 32 ≃ Fin 32 := ⟨fun k => fwd c k, fun d => ⟨(d.val + 32 - c.val) % 32, Nat.mod_lt _ (by decide)⟩, sub_fwd c, fwd_sub c⟩
/-- and to the device k places back. -/
def bwdE (c : Fin 32) : Fin 32 ≃ Fin 32 := ⟨fun k => bwd c k, fun d => ⟨(c.val + 32 - d.val) % 32, Nat.mod_lt _ (by decide)⟩, sub_bwd c, bwd_sub c⟩

section Lists
variable {M : Type _} [URA M]

/-- The 64 pieces along any renumbering of the places: per half, the piece at place e 0, then those at e 1 … e 31. -/
theorem pieces_by (e : Fin 32 ≃ Fin 32) (Φ : Fin 2 × Fin 32 → sProp M) :
    bigSepL pieces Φ = iprop((Φ (0, e 0) ∗ bigSepL ks fun k => Φ (0, e k)) ∗ (Φ (1, e 0) ∗ bigSepL ks fun k => Φ (1, e k))) := by
  rw [← bigSep_univ_eq_bigSepL pieces pieces_univ pieces_nodup, bigSep_univ_prod, bigSep_hf,
    bigSep_univ_equiv e (fun s => Φ (0, s)), bigSep_univ_equiv e (fun s => Φ (1, s)), bigSep_fin32, bigSep_fin32]

theorem bigSepL_mono (l : List (Fin 32)) (hl : l.Nodup) {Φ Ψ : Fin 32 → sProp M} (h : ∀ k, Φ k ⊢ Ψ k) : bigSepL l Φ ⊢ bigSepL l Ψ := by
  rw [← bigSep_eq_bigSepL l hl, ← bigSep_eq_bigSepL l hl]
  exact bigSep_mono fun k _ => h k

end Lists

/-! ## The receive buffer and the gather buffer at launch, cut -/

/-- The receive buffer whole is its two own slots and, per half, the slots in the order the signals hand them out. -/
theorem buf_cut (c : Dev nD) (fb : Buf (Elt F) ((c : Thread nD τ).loc cc0_scratch2)) :
    ((c : Thread nD τ).loc cc0_scratch2 ↦{fullShare} fb : sProp 𝕄)
      = iprop((slotAt c 0 fb (opp 0) ∗ bigSepL ks fun k => slotAt c 0 fb (opp k)) ∗ (slotAt c 1 fb (opp 0) ∗ bigSepL ks fun k => slotAt c 1 fb (opp k))) :=
  (buf_eq_slots c fullShare fb).trans (pieces_by oppE fun p => slotAt c p.1 fb p.2)

/-- This device's own rows of the gather buffer, half h, at the buffer's contents. -/
def ownOutAt (c : Dev nD) (h : Fin 2) (fo : Buf (Elt F) ((c : Thread nD τ).loc cc0_scratch1)) : sProp 𝕄 :=
  ((chunk outM c h).view.loc (c : Thread nD τ) ↦[(chunk outM c h).view.set]{fullShare} fo)

/-- The gather buffer whole is, per half, the rows by offset from this device (offset 0: its own). -/
theorem out_cut (c : Dev nD) (fo : Buf (Elt F) ((c : Thread nD τ).loc cc0_scratch1)) :
    ((c : Thread nD τ).loc cc0_scratch1 ↦{fullShare} fo : sProp 𝕄)
      = iprop((outAt c 0 0 fo ∗ bigSepL ks fun k => outAt c 0 k fo) ∗ (outAt c 1 0 fo ∗ bigSepL ks fun k => outAt c 1 k fo)) :=
  (out_eq_chunks c fullShare fo).trans (pieces_by (fwdE c) fun p => (chunk outM p.2 p.1).view.loc (c : Thread nD τ) ↦[(chunk outM p.2 p.1).view.set]{fullShare} fo)

/-! ## The three buffers after the body, rejoined -/

omit [FloatOps F] in
theorem ks_nodup' : ks.Nodup := by decide

section Rejoin
variable (c : Dev nD)

/-- A piece at anything. -/
def slotEx (h : Fin 2) (s : Fin 32) : sProp 𝕄 := iprop(∃ f, (slot h s).view.loc (c : Thread nD τ) ↦[(slot h s).view.set]{fullShare} f)
def outEx (h : Fin 2) (d : Fin 32) : sProp 𝕄 := iprop(∃ f, (chunk outM d h).view.loc (c : Thread nD τ) ↦[(chunk outM d h).view.set]{fullShare} f)
def accEx (h : Fin 2) (d : Fin 32) : sProp 𝕄 := iprop(∃ f, (chunk accM d h).view.loc (c : Thread nD τ) ↦[(chunk accM d h).view.set]{fullShare} f)

theorem slots_join_ex : bigSepL pieces (fun p => slotEx (F := F) c p.1 p.2) ⊢ (iprop(∃ g, (c : Thread nD τ).loc cc0_scratch2 ↦{fullShare} g) : sProp 𝕄) := by
  rw [← bigSep_univ_eq_bigSepL pieces pieces_univ pieces_nodup]
  refine (BI.bigSep_exists_pi Finset.univ (fun (p : Fin 2 × Fin 32) (f : Buf (Elt F) ((c : Thread nD τ).loc cc0_scratch2)) =>
    ((slot p.1 p.2).view.loc (c : Thread nD τ) ↦[(slot p.1 p.2).view.set]{fullShare} f : sProp 𝕄))).trans ?_
  iintro ⟨%fs, H⟩
  iapply (slots_join c fullShare fs)
  rw [← bigSep_univ_eq_bigSepL pieces pieces_univ pieces_nodup]
  iexact H

theorem out_join_ex : bigSepL pieces (fun p => outEx (F := F) c p.1 p.2) ⊢ (iprop(∃ g, (c : Thread nD τ).loc cc0_scratch1 ↦{fullShare} g) : sProp 𝕄) := by
  rw [← bigSep_univ_eq_bigSepL pieces pieces_univ pieces_nodup]
  refine (BI.bigSep_exists_pi Finset.univ (fun (p : Fin 2 × Fin 32) (f : Buf (Elt F) ((c : Thread nD τ).loc cc0_scratch1)) =>
    ((chunk outM p.2 p.1).view.loc (c : Thread nD τ) ↦[(chunk outM p.2 p.1).view.set]{fullShare} f : sProp 𝕄))).trans ?_
  iintro ⟨%fs, H⟩
  iapply (out_chunks_join c fullShare fs)
  rw [← bigSep_univ_eq_bigSepL pieces pieces_univ pieces_nodup]
  iexact H

theorem acc_join_ex : bigSepL pieces (fun p => accEx (F := F) c p.1 p.2) ⊢ (iprop(∃ g, (c : Thread nD τ).loc cc0_scratch0 ↦{fullShare} g) : sProp 𝕄) := by
  rw [← bigSep_univ_eq_bigSepL pieces pieces_univ pieces_nodup]
  refine (BI.bigSep_exists_pi Finset.univ (fun (p : Fin 2 × Fin 32) (f : Buf (Elt F) ((c : Thread nD τ).loc cc0_scratch0)) =>
    ((chunk accM p.2 p.1).view.loc (c : Thread nD τ) ↦[(chunk accM p.2 p.1).view.set]{fullShare} f : sProp 𝕄))).trans ?_
  iintro ⟨%fs, H⟩
  iapply (acc_chunks_join c fullShare fs)
  rw [← bigSep_univ_eq_bigSepL pieces pieces_univ pieces_nodup]
  iexact H

theorem got_slotEx (h : Fin 2) (k : Fin 32) : gotRsR m c h k ⊢ slotEx c h k := by
  unfold gotRsR slotEx; iintro H; iexists _; iexact H
theorem gotAgR_outEx (h : Fin 2) (k : Fin 32) : gotAgR m c h k ⊢ outEx c h (bwd c k) := by
  unfold gotAgR outEx; iintro H; iexists _; iexact H
theorem accSrc_accEx (h : Fin 2) (k : Fin 32) : accSrcAt m c h k ⊢ accEx c h (fwd c k) := by
  unfold accSrcAt accEx; iintro H; iexists _; iexact H

/-- The receive buffer: the two own slots at anything, the 62 others as their chunks landed. -/
theorem buf_rejoin : iprop((slotEx c 0 0 ∗ bigSepL ks (fun k => gotRsR m c 0 k)) ∗ (slotEx c 1 0 ∗ bigSepL ks (fun k => gotRsR m c 1 k)))
    ⊢ (iprop(∃ g, (c : Thread nD τ).loc cc0_scratch2 ↦{fullShare} g) : sProp 𝕄) := by
  iintro ⟨⟨A0, A⟩, ⟨B0, B⟩⟩
  ihave A' := (bigSepL_mono ks ks_nodup' (fun k => got_slotEx m c 0 k)) $$ A
  ihave B' := (bigSepL_mono ks ks_nodup' (fun k => got_slotEx m c 1 k)) $$ B
  iapply (slots_join_ex (F := F) c)
  rw [pieces_by (Equiv.refl (Fin 32)) (fun p => slotEx (F := F) c p.1 p.2)]
  simp only [Equiv.refl_apply]
  isplitl [A0 A']
  · isplitl [A0] <;> iassumption
  isplitl [B0] <;> iassumption

/-- The partial product: the 64 chunks as they were sent. -/
theorem acc_rejoin : iprop((accSrcAt m c 0 0 ∗ bigSepL ks (fun k => accSrcAt m c 0 k)) ∗ (accSrcAt m c 1 0 ∗ bigSepL ks (fun k => accSrcAt m c 1 k)))
    ⊢ (iprop(∃ g, (c : Thread nD τ).loc cc0_scratch0 ↦{fullShare} g) : sProp 𝕄) := by
  iintro ⟨⟨A0, A⟩, ⟨B0, B⟩⟩
  ihave A0' := (accSrc_accEx m c 0 0) $$ A0
  ihave B0' := (accSrc_accEx m c 1 0) $$ B0
  ihave A' := (bigSepL_mono ks ks_nodup' (fun k => accSrc_accEx m c 0 k)) $$ A
  ihave B' := (bigSepL_mono ks ks_nodup' (fun k => accSrc_accEx m c 1 k)) $$ B
  iapply (acc_join_ex (F := F) c)
  rw [pieces_by (fwdE c) (fun p => accEx (F := F) c p.1 p.2)]
  simp only [fwdE, Equiv.coe_fn_mk]
  isplitl [A0' A']
  · isplitl [A0'] <;> iassumption
  isplitl [B0'] <;> iassumption

/-- The own gather rows of half h, the 32 shares together again. -/
theorem own_rows_rejoin (h : Fin 2) : iprop(outShareAt m c h 0 ∗ bigSepL ks (fun k => outShareAt m c h k)) ⊢ outEx c h c := by
  have e := pointsTo_full_eq_shares (nD := nD) (τ := τ) (sig := sig) (Ix := Unit) (Val := Elt F) (Name := ℕ) (U := UU) (Lvl := ℕ)
    (ℓ := (chunk outM c h).view.loc (c : Thread nD τ)) ((chunk outM c h).view.set) ((chunk outM c h).view.rep (reduced m c h))
  unfold outShareAt outEx
  rw [← e]
  iintro H; iexists _; iexact H

/-- The gather buffer: the own rows' shares and the 62 other rows as they landed. -/
theorem out_rejoin : iprop(((outShareAt m c 0 0 ∗ bigSepL ks (fun k => outShareAt m c 0 k)) ∗ bigSepL ks (fun k => gotAgR m c 0 k))
      ∗ ((outShareAt m c 1 0 ∗ bigSepL ks (fun k => outShareAt m c 1 k)) ∗ bigSepL ks (fun k => gotAgR m c 1 k)))
    ⊢ (iprop(∃ g, (c : Thread nD τ).loc cc0_scratch1 ↦{fullShare} g) : sProp 𝕄) := by
  iintro ⟨⟨A0, A⟩, ⟨B0, B⟩⟩
  ihave A0' := (own_rows_rejoin m c 0) $$ A0
  ihave B0' := (own_rows_rejoin m c 1) $$ B0
  ihave A' := (bigSepL_mono ks ks_nodup' (fun k => gotAgR_outEx m c 0 k)) $$ A
  ihave B' := (bigSepL_mono ks ks_nodup' (fun k => gotAgR_outEx m c 1 k)) $$ B
  iapply (out_join_ex (F := F) c)
  rw [pieces_by (bwdE c) (fun p => outEx (F := F) c p.1 p.2)]
  simp only [bwdE, Equiv.coe_fn_mk, bwd_zero]
  isplitl [A0' A']
  · isplitl [A0'] <;> iassumption
  isplitl [B0'] <;> iassumption

end Rejoin

/-! ## More glue: the barrier's payloads by kind, the cells' closing by family, the offsets listed -/

omit [FloatOps F] in
theorem ks_eq : ks = [1, 2, 3, 4, 5, 6, 7, 8, 9, 10, 11, 12, 13, 14, 15, 16, 17, 18, 19, 20, 21, 22, 23, 24, 25, 26, 27, 28, 29, 30, 31] := rfl

omit [FloatOps F] in
theorem barGot_split1 (c : Dev nD) (k : Fin 32) : (barGot c k : sProp 𝕄) ⊢ iprop(peerSlotAt c 0 k ∗ peerSlotAt c 1 k ∗ peerOutAt c 0 k ∗ peerOutAt c 1 k) := by
  unfold barGot peerSlotAt peerOutAt
  iintro ⟨A, B, C, D, -⟩
  isplitl [A]
  · iexact A
  isplitl [B]
  · iexact B
  isplitl [C]
  · iexact C
  iexact D

omit [FloatOps F] in
/-- What the barrier wait hands over, sorted: the peers' slots and gather rows, half by half (the reached facts are let go:
    the copies' bundles carry their own). -/
theorem barGot_split (c : Dev nD) : bigSepL ks (fun k => (barGot c k : sProp 𝕄))
    ⊢ iprop(bigSepL ks (fun k => peerSlotAt c 0 k) ∗ bigSepL ks (fun k => peerSlotAt c 1 k) ∗ bigSepL ks (fun k => peerOutAt c 0 k) ∗ bigSepL ks (fun k => peerOutAt c 1 k)) := by
  rw [← bigSep_eq_bigSepL ks ks_nodup', ← bigSep_eq_bigSepL ks ks_nodup', ← bigSep_eq_bigSepL ks ks_nodup', ← bigSep_eq_bigSepL ks ks_nodup', ← bigSep_eq_bigSepL ks ks_nodup',
    ← bigSep_sep', ← bigSep_sep', ← bigSep_sep']
  exact bigSep_mono fun k _ => barGot_split1 c k

/-- The 31 cells of array p, half h, closed. -/
theorem close_fam (c : Dev nD) (p : Phase) (h : Fin 2) :
    bigSepL ks (fun k => closedAt m K c h k p) ⊢ (|={Set.univ}=> bigSepL ks (fun k => semVal (dmaCell c p h k) 0) : sProp 𝕄) := by
  unfold closedAt
  exact close_cells m K c p h

end Cert.KernelIdeal.AllReduce

end
-- ==== Proof.BodyCompose.lean ====
/-
  The body of the kernel on one device, composed: the printed parts' statements applied in program order, the resources
  handed from part to part by family (each family a list in the order the program uses it), the launch state cut
  into those families at the start, and the three scratch buffers and the cells' counters put together again at the end.
-/
import proofs.«900438_g7700000000000439_dist_gemm_ar_m1024_k1024_n1024_f32_gelu_v7x_i32_1_alg».proof.Proof.BodyTwins
import proofs.«900438_g7700000000000439_dist_gemm_ar_m1024_k1024_n1024_f32_gelu_v7x_i32_1_alg».proof.Proof.BodyPart6
import proofs.«900438_g7700000000000439_dist_gemm_ar_m1024_k1024_n1024_f32_gelu_v7x_i32_1_alg».proof.Proof.BodyPart20
import proofs.«900438_g7700000000000439_dist_gemm_ar_m1024_k1024_n1024_f32_gelu_v7x_i32_1_alg».proof.Proof.BodyPart21
import proofs.«900438_g7700000000000439_dist_gemm_ar_m1024_k1024_n1024_f32_gelu_v7x_i32_1_alg».proof.Proof.BodyPart50
import proofs.«900438_g7700000000000439_dist_gemm_ar_m1024_k1024_n1024_f32_gelu_v7x_i32_1_alg».proof.Proof.BodyPart78
import proofs.«900438_g7700000000000439_dist_gemm_ar_m1024_k1024_n1024_f32_gelu_v7x_i32_1_alg».proof.Proof.BodyPart79
import proofs.«900438_g7700000000000439_dist_gemm_ar_m1024_k1024_n1024_f32_gelu_v7x_i32_1_alg».proof.Proof.BodyPart121
import proofs.«900438_g7700000000000439_dist_gemm_ar_m1024_k1024_n1024_f32_gelu_v7x_i32_1_alg».proof.Proof.BodyPart134
import proofs.«900438_g7700000000000439_dist_gemm_ar_m1024_k1024_n1024_f32_gelu_v7x_i32_1_alg».proof.Proof.BodyRegroup
import proofs.«900438_g7700000000000439_dist_gemm_ar_m1024_k1024_n1024_f32_gelu_v7x_i32_1_alg».proof.Proof.BodyShell

noncomputable section

namespace Cert.KernelIdeal.AllReduce

open Cert.KernelIdeal Cert.KernelIdeal.Gen Cert.KernelIdeal.Regions

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (K : GSem nD τ sig → ℕ)

/-! ## The eight parts with local loads and stores, over the named resources -/

theorem part6_spec' (c : Dev nD) (v2 : BitVec 32) (v120 : BitVec 32) (c32_i32_116 : BitVec 32) (fo : Buf (Elt F) ((c : Thread nD τ).loc cc0_scratch1)) (fb : Buf (Elt F) ((c : Thread nD τ).loc cc0_scratch2)) (f3 : Buf (Elt F) ((c : Thread nD τ).loc cc0_scratch0)) (O : CellTallies nD τ sig Unit) (hmwbar : (levAts L lv : sProp 𝕄) ⊢ MayWait (c : Thread nD τ) (.reg barS) () O) (W : Waits sig Unit) (Q : (Σ' (v130 : FVec F S1024x32 .bf16) (v133 : FVec F S32x1024 .bf16), BitVec 32) → sProp 𝕄) :
    iprop(sigRes m K c 30
      ∗ slotAt c 0 fb (opp 30)
      ∗ slotAt c 1 fb (opp 30)
      ∗ outAt c 0 30 fo
      ∗ outAt c 1 30 fo
      ∗ sigRes m K c 31
      ∗ slotAt c 0 fb (opp 31)
      ∗ slotAt c 1 fb (opp 31)
      ∗ outAt c 0 31 fo
      ∗ outAt c 1 31 fo
      ∗ ((Memref.whole cc0_stg0_0).view.loc (c : Thread nD τ) ↦{fullShare} xIn m c)
      ∗ ((Memref.whole cc0_stg1_0).view.loc (c : Thread nD τ) ↦{fullShare} wIn m c)
      ∗ ((Memref.whole cc0_scratch0).view.loc (c : Thread nD τ) ↦{fullShare} f3)
      ∗ slotAt c 0 fb (opp 0)
      ∗ barRes m K c
      ∗ levAts L lv
      ∗ owes (c : Thread nD τ) (O + tallyAt (barCell (fwd c 31)) () 1 + tallyAt (barCell (fwd c 30)) () 1) W
      ∗ (∀ (v : BitVec 32), (((Memref.whole cc0_stg0_0).view.loc (c : Thread nD τ) ↦{fullShare} xIn m c) ∗ ((Memref.whole cc0_stg1_0).view.loc (c : Thread nD τ) ↦{fullShare} wIn m c) ∗ accSrcAt m c 0 0 ∗ accSrcAt m c 0 1 ∗ accSrcAt m c 0 2 ∗ accSrcAt m c 0 3 ∗ accSrcAt m c 0 4 ∗ accSrcAt m c 0 5 ∗ accSrcAt m c 0 6 ∗ accSrcAt m c 0 7 ∗ accSrcAt m c 0 8 ∗ accSrcAt m c 0 9 ∗ accSrcAt m c 0 10 ∗ accSrcAt m c 0 11 ∗ accSrcAt m c 0 12 ∗ accSrcAt m c 0 13 ∗ accSrcAt m c 0 14 ∗ accSrcAt m c 0 15 ∗ accSrcAt m c 0 16 ∗ accSrcAt m c 0 17 ∗ accSrcAt m c 0 18 ∗ accSrcAt m c 0 19 ∗ accSrcAt m c 0 20 ∗ accSrcAt m c 0 21 ∗ accSrcAt m c 0 22 ∗ accSrcAt m c 0 23 ∗ accSrcAt m c 0 24 ∗ accSrcAt m c 0 25 ∗ accSrcAt m c 0 26 ∗ accSrcAt m c 0 27 ∗ accSrcAt m c 0 28 ∗ accSrcAt m c 0 29 ∗ accSrcAt m c 0 30 ∗ accSrcAt m c 0 31 ∗ (bigSepL places (fun d => (chunk accM d 1).view.loc (c : Thread nD τ) ↦[(chunk accM d 1).view.set]{fullShare} accM.view.writes (Elt F) f3 [⟨Rect.unit (s := S1024x1024) ![0, 0] S1024x512.size inb_S1024x1024_S1024x512_0_0, k0_pay3 (xIn m c) (wIn m c)⟩])) ∗ gotRsR m c 0 0 ∗ (bigSepL ks (fun k => barGot c k)) ∗ owes (c : Thread nD τ) (O) (insert (SemLoc.reg barS, ()) (W))) -∗ Q ⟨k0_pay1 (xIn m c), k0_pay2 (wIn m c), v⟩))
      ⊢ wp frame (wpE (defs₀ (F := F)) 𝒱₀ c none) Set.univ (k0_part6 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v120 c32_i32_116) Q :=
  part6_spec m K c v2 v120 c32_i32_116 fo fb f3 O hmwbar W Q

theorem part20_spec' (c : Dev nD) (v2 : BitVec 32) (v495 : BitVec 32) (f3 : Buf (Elt F) ((c : Thread nD τ).loc cc0_scratch0)) (O : CellTallies nD τ sig Unit) (W : Waits sig Unit) (Q : PUnit → sProp 𝕄) :
    iprop(copyRes m K rsS rsR c 0 30
      ∗ accSrcAt m c 0 30
      ∗ peerSlotAt c 0 30
      ∗ copyRes m K rsS rsR c 0 31
      ∗ accSrcAt m c 0 31
      ∗ peerSlotAt c 0 31
      ∗ (bigSepL places (fun d => (chunk accM d 1).view.loc (c : Thread nD τ) ↦[(chunk accM d 1).view.set]{fullShare} accM.view.writes (Elt F) f3 [⟨Rect.unit (s := S1024x1024) ![0, 0] S1024x512.size inb_S1024x1024_S1024x512_0_0, k0_pay3 (xIn m c) (wIn m c)⟩]))
      ∗ owes (c : Thread nD τ) (O + tallyAt (dmaCell (fwd c 31) rsR 0 31) () Nc + tallyAt (dmaCell (fwd c 30) rsR 0 30) () Nc) W
      ∗ (∀ r, (recvRes m K rsS c 0 30 ∗ recvRes m K rsS c 0 31 ∗ accSrcAt m c 1 0 ∗ accSrcAt m c 1 1 ∗ accSrcAt m c 1 2 ∗ accSrcAt m c 1 3 ∗ accSrcAt m c 1 4 ∗ accSrcAt m c 1 5 ∗ accSrcAt m c 1 6 ∗ accSrcAt m c 1 7 ∗ accSrcAt m c 1 8 ∗ accSrcAt m c 1 9 ∗ accSrcAt m c 1 10 ∗ accSrcAt m c 1 11 ∗ accSrcAt m c 1 12 ∗ accSrcAt m c 1 13 ∗ accSrcAt m c 1 14 ∗ accSrcAt m c 1 15 ∗ accSrcAt m c 1 16 ∗ accSrcAt m c 1 17 ∗ accSrcAt m c 1 18 ∗ accSrcAt m c 1 19 ∗ accSrcAt m c 1 20 ∗ accSrcAt m c 1 21 ∗ accSrcAt m c 1 22 ∗ accSrcAt m c 1 23 ∗ accSrcAt m c 1 24 ∗ accSrcAt m c 1 25 ∗ accSrcAt m c 1 26 ∗ accSrcAt m c 1 27 ∗ accSrcAt m c 1 28 ∗ accSrcAt m c 1 29 ∗ accSrcAt m c 1 30 ∗ accSrcAt m c 1 31 ∗ owes (c : Thread nD τ) (O) (W)) -∗ Q r))
      ⊢ wp frame (wpE (defs₀ (F := F)) 𝒱₀ c none) Set.univ (k0_part20 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (k0_pay1 (xIn m c)) (k0_pay2 (wIn m c)) v495) Q :=
  part20_spec m K c v2 v495 f3 O W Q

theorem part21_spec' (c : Dev nD) (v2 : BitVec 32) (fb : Buf (Elt F) ((c : Thread nD τ).loc cc0_scratch2)) (O : CellTallies nD τ sig Unit) (W : Waits sig Unit) (Q : (PUnit) → sProp 𝕄) :
    iprop(accSrcAt m c 1 0
      ∗ slotAt c 1 fb (opp 0)
      ∗ copyRes m K rsS rsR c 1 1
      ∗ accSrcAt m c 1 1
      ∗ peerSlotAt c 1 1
      ∗ owes (c : Thread nD τ) (O + tallyAt (dmaCell (fwd c 1) rsR 1 1) () Nc) W
      ∗ (∀ r, (accSrcAt m c 1 0 ∗ gotRsR m c 1 0 ∗ recvRes m K rsS c 1 1 ∗ owes (c : Thread nD τ) O W) -∗ Q r))
      ⊢ wp frame (wpE (defs₀ (F := F)) 𝒱₀ c none) Set.univ (k0_part21 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part21_spec m K c v2 fb O W Q

theorem part50_spec' (c : Dev nD) (v2 : BitVec 32) (fo : Buf (Elt F) ((c : Thread nD τ).loc cc0_scratch1)) (W : Waits sig Unit) (Q : PUnit → sProp 𝕄) :
    iprop(recvRes m K rsR c 0 31
      ∗ levAts L lv
      ∗ gotRsR m c 0 0
      ∗ gotRsR m c 0 1
      ∗ gotRsR m c 0 2
      ∗ gotRsR m c 0 3
      ∗ gotRsR m c 0 4
      ∗ gotRsR m c 0 5
      ∗ gotRsR m c 0 6
      ∗ gotRsR m c 0 7
      ∗ gotRsR m c 0 8
      ∗ gotRsR m c 0 9
      ∗ gotRsR m c 0 10
      ∗ gotRsR m c 0 11
      ∗ gotRsR m c 0 12
      ∗ gotRsR m c 0 13
      ∗ gotRsR m c 0 14
      ∗ gotRsR m c 0 15
      ∗ gotRsR m c 0 16
      ∗ gotRsR m c 0 17
      ∗ gotRsR m c 0 18
      ∗ gotRsR m c 0 19
      ∗ gotRsR m c 0 20
      ∗ gotRsR m c 0 21
      ∗ gotRsR m c 0 22
      ∗ gotRsR m c 0 23
      ∗ gotRsR m c 0 24
      ∗ gotRsR m c 0 25
      ∗ gotRsR m c 0 26
      ∗ gotRsR m c 0 27
      ∗ gotRsR m c 0 28
      ∗ gotRsR m c 0 29
      ∗ gotRsR m c 0 30
      ∗ outAt c 0 0 fo
      ∗ owes (c : Thread nD τ) (owedAfter c 93) W
      ∗ (∀ r, (gotRsR m c 0 0 ∗ gotRsR m c 0 1 ∗ gotRsR m c 0 2 ∗ gotRsR m c 0 3 ∗ gotRsR m c 0 4 ∗ gotRsR m c 0 5 ∗ gotRsR m c 0 6 ∗ gotRsR m c 0 7 ∗ gotRsR m c 0 8 ∗ gotRsR m c 0 9 ∗ gotRsR m c 0 10 ∗ gotRsR m c 0 11 ∗ gotRsR m c 0 12 ∗ gotRsR m c 0 13 ∗ gotRsR m c 0 14 ∗ gotRsR m c 0 15 ∗ gotRsR m c 0 16 ∗ gotRsR m c 0 17 ∗ gotRsR m c 0 18 ∗ gotRsR m c 0 19 ∗ gotRsR m c 0 20 ∗ gotRsR m c 0 21 ∗ gotRsR m c 0 22 ∗ gotRsR m c 0 23 ∗ gotRsR m c 0 24 ∗ gotRsR m c 0 25 ∗ gotRsR m c 0 26 ∗ gotRsR m c 0 27 ∗ gotRsR m c 0 28 ∗ gotRsR m c 0 29 ∗ gotRsR m c 0 30 ∗ gotRsR m c 0 31 ∗ closedAt m K c 0 31 rsR ∗ outShareAt m c 0 0 ∗ outShareAt m c 0 1 ∗ outShareAt m c 0 2 ∗ outShareAt m c 0 3 ∗ outShareAt m c 0 4 ∗ outShareAt m c 0 5 ∗ outShareAt m c 0 6 ∗ outShareAt m c 0 7 ∗ outShareAt m c 0 8 ∗ outShareAt m c 0 9 ∗ outShareAt m c 0 10 ∗ outShareAt m c 0 11 ∗ outShareAt m c 0 12 ∗ outShareAt m c 0 13 ∗ outShareAt m c 0 14 ∗ outShareAt m c 0 15 ∗ outShareAt m c 0 16 ∗ outShareAt m c 0 17 ∗ outShareAt m c 0 18 ∗ outShareAt m c 0 19 ∗ outShareAt m c 0 20 ∗ outShareAt m c 0 21 ∗ outShareAt m c 0 22 ∗ outShareAt m c 0 23 ∗ outShareAt m c 0 24 ∗ outShareAt m c 0 25 ∗ outShareAt m c 0 26 ∗ outShareAt m c 0 27 ∗ outShareAt m c 0 28 ∗ outShareAt m c 0 29 ∗ outShareAt m c 0 30 ∗ outShareAt m c 0 31 ∗ owes (c : Thread nD τ) (owedAfter c 93) (insert (SemLoc.dma (semAt (arr rsR) 0 31), ()) (W))) -∗ Q r))
      ⊢ wp frame (wpE (defs₀ (F := F)) 𝒱₀ c none) Set.univ (k0_part50 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part50_spec m K c v2 fo W Q

theorem part78_spec' (c : Dev nD) (v2 : BitVec 32) (W : Waits sig Unit) (Q : (Σ' (v1984 : FVec F S32x512 .f32), FVec F S32x512 .f32) → sProp 𝕄) :
    iprop(recvRes m K rsR c 1 30
      ∗ recvRes m K rsR c 1 31
      ∗ levAts L lv
      ∗ gotRsR m c 1 0
      ∗ gotRsR m c 1 1
      ∗ gotRsR m c 1 2
      ∗ gotRsR m c 1 3
      ∗ gotRsR m c 1 4
      ∗ gotRsR m c 1 5
      ∗ gotRsR m c 1 6
      ∗ gotRsR m c 1 7
      ∗ gotRsR m c 1 8
      ∗ gotRsR m c 1 9
      ∗ gotRsR m c 1 10
      ∗ gotRsR m c 1 11
      ∗ gotRsR m c 1 12
      ∗ gotRsR m c 1 13
      ∗ gotRsR m c 1 14
      ∗ gotRsR m c 1 15
      ∗ gotRsR m c 1 16
      ∗ gotRsR m c 1 17
      ∗ gotRsR m c 1 18
      ∗ gotRsR m c 1 19
      ∗ gotRsR m c 1 20
      ∗ gotRsR m c 1 21
      ∗ gotRsR m c 1 22
      ∗ gotRsR m c 1 23
      ∗ gotRsR m c 1 24
      ∗ gotRsR m c 1 25
      ∗ gotRsR m c 1 26
      ∗ gotRsR m c 1 27
      ∗ gotRsR m c 1 28
      ∗ gotRsR m c 1 29
      ∗ owes (c : Thread nD τ) (owedAfter c 124) W
      ∗ ((gotRsR m c 1 0 ∗ gotRsR m c 1 1 ∗ gotRsR m c 1 2 ∗ gotRsR m c 1 3 ∗ gotRsR m c 1 4 ∗ gotRsR m c 1 5 ∗ gotRsR m c 1 6 ∗ gotRsR m c 1 7 ∗ gotRsR m c 1 8 ∗ gotRsR m c 1 9 ∗ gotRsR m c 1 10 ∗ gotRsR m c 1 11 ∗ gotRsR m c 1 12 ∗ gotRsR m c 1 13 ∗ gotRsR m c 1 14 ∗ gotRsR m c 1 15 ∗ gotRsR m c 1 16 ∗ gotRsR m c 1 17 ∗ gotRsR m c 1 18 ∗ gotRsR m c 1 19 ∗ gotRsR m c 1 20 ∗ gotRsR m c 1 21 ∗ gotRsR m c 1 22 ∗ gotRsR m c 1 23 ∗ gotRsR m c 1 24 ∗ gotRsR m c 1 25 ∗ gotRsR m c 1 26 ∗ gotRsR m c 1 27 ∗ gotRsR m c 1 28 ∗ gotRsR m c 1 29 ∗ gotRsR m c 1 30 ∗ gotRsR m c 1 31 ∗ closedAt m K c 1 30 rsR ∗ closedAt m K c 1 31 rsR ∗ owes (c : Thread nD τ) (owedAfter c 124) (insert (SemLoc.dma (semAt (arr rsR) 1 31), ()) (insert (SemLoc.dma (semAt (arr rsR) 1 30), ()) (W)))) -∗ Q ⟨k0_pay9 (halfVal m c 1), k0_pay10 (halfVal m c 1)⟩))
      ⊢ wp frame (wpE (defs₀ (F := F)) 𝒱₀ c none) Set.univ (k0_part78 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part78_spec m K c v2 W Q

theorem part79_spec' (c : Dev nD) (v2 : BitVec 32) (fo : Buf (Elt F) ((c : Thread nD τ).loc cc0_scratch1)) (O : CellTallies nD τ sig Unit) (W : Waits sig Unit) (Q : PUnit → sProp 𝕄) :
    iprop(outAt c 1 0 fo
      ∗ copyRes m K agS agR c 1 1
      ∗ peerOutAt c 1 1
      ∗ owes (c : Thread nD τ) (O + tallyAt (dmaCell (fwd c 1) agR 1 1) () Nc) W
      ∗ (∀ r, (outShareAt m c 1 0 ∗ outShareAt m c 1 2 ∗ outShareAt m c 1 3 ∗ outShareAt m c 1 4 ∗ outShareAt m c 1 5 ∗ outShareAt m c 1 6 ∗ outShareAt m c 1 7 ∗ outShareAt m c 1 8 ∗ outShareAt m c 1 9 ∗ outShareAt m c 1 10 ∗ outShareAt m c 1 11 ∗ outShareAt m c 1 12 ∗ outShareAt m c 1 13 ∗ outShareAt m c 1 14 ∗ outShareAt m c 1 15 ∗ outShareAt m c 1 16 ∗ outShareAt m c 1 17 ∗ outShareAt m c 1 18 ∗ outShareAt m c 1 19 ∗ outShareAt m c 1 20 ∗ outShareAt m c 1 21 ∗ outShareAt m c 1 22 ∗ outShareAt m c 1 23 ∗ outShareAt m c 1 24 ∗ outShareAt m c 1 25 ∗ outShareAt m c 1 26 ∗ outShareAt m c 1 27 ∗ outShareAt m c 1 28 ∗ outShareAt m c 1 29 ∗ outShareAt m c 1 30 ∗ outShareAt m c 1 31 ∗ recvRes m K agS c 1 1 ∗ owes (c : Thread nD τ) (O) (W)) -∗ Q r))
      ⊢ wp frame (wpE (defs₀ (F := F)) 𝒱₀ c none) Set.univ (k0_part79 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (k0_pay9 (halfVal m c 1)) (k0_pay10 (halfVal m c 1))) Q :=
  part79_spec m K c v2 fo O W Q

theorem part121_spec' (c : Dev nD) (v2 : BitVec 32) (v3005 : BitVec 32) (c1_i32_3836 : BitVec 32) (f2 : Buf (Elt F) ((c : Thread nD τ).loc cc0_stg2_0)) (W : Waits sig Unit) (Q : (Σ' (v3033 : BitVec 32), BitVec 32) → sProp 𝕄) :
    iprop(recvRes m K agR c 0 30
      ∗ recvRes m K agR c 0 31
      ∗ levAts L lv
      ∗ outShareAt m c 0 0
      ∗ gotAgR m c 0 1
      ∗ gotAgR m c 0 2
      ∗ gotAgR m c 0 3
      ∗ gotAgR m c 0 4
      ∗ gotAgR m c 0 5
      ∗ gotAgR m c 0 6
      ∗ gotAgR m c 0 7
      ∗ gotAgR m c 0 8
      ∗ gotAgR m c 0 9
      ∗ gotAgR m c 0 10
      ∗ gotAgR m c 0 11
      ∗ gotAgR m c 0 12
      ∗ gotAgR m c 0 13
      ∗ gotAgR m c 0 14
      ∗ gotAgR m c 0 15
      ∗ gotAgR m c 0 16
      ∗ gotAgR m c 0 17
      ∗ gotAgR m c 0 18
      ∗ gotAgR m c 0 19
      ∗ gotAgR m c 0 20
      ∗ gotAgR m c 0 21
      ∗ gotAgR m c 0 22
      ∗ gotAgR m c 0 23
      ∗ gotAgR m c 0 24
      ∗ gotAgR m c 0 25
      ∗ gotAgR m c 0 26
      ∗ gotAgR m c 0 27
      ∗ gotAgR m c 0 28
      ∗ gotAgR m c 0 29
      ∗ ((Memref.whole cc0_stg2_0).view.loc (c : Thread nD τ) ↦{fullShare} f2)
      ∗ owes (c : Thread nD τ) (owedAfter c 155) W
      ∗ (∀ r, (outShareAt m c 0 0 ∗ gotAgR m c 0 1 ∗ gotAgR m c 0 2 ∗ gotAgR m c 0 3 ∗ gotAgR m c 0 4 ∗ gotAgR m c 0 5 ∗ gotAgR m c 0 6 ∗ gotAgR m c 0 7 ∗ gotAgR m c 0 8 ∗ gotAgR m c 0 9 ∗ gotAgR m c 0 10 ∗ gotAgR m c 0 11 ∗ gotAgR m c 0 12 ∗ gotAgR m c 0 13 ∗ gotAgR m c 0 14 ∗ gotAgR m c 0 15 ∗ gotAgR m c 0 16 ∗ gotAgR m c 0 17 ∗ gotAgR m c 0 18 ∗ gotAgR m c 0 19 ∗ gotAgR m c 0 20 ∗ gotAgR m c 0 21 ∗ gotAgR m c 0 22 ∗ gotAgR m c 0 23 ∗ gotAgR m c 0 24 ∗ gotAgR m c 0 25 ∗ gotAgR m c 0 26 ∗ gotAgR m c 0 27 ∗ gotAgR m c 0 28 ∗ gotAgR m c 0 29 ∗ gotAgR m c 0 30 ∗ gotAgR m c 0 31 ∗ closedAt m K c 0 30 agR ∗ closedAt m K c 0 31 agR ∗ ((Memref.whole cc0_stg2_0).view.loc (c : Thread nD τ) ↦{fullShare} stg2Mid m c f2) ∗ owes (c : Thread nD τ) (owedAfter c 155) (insert (SemLoc.dma (semAt (arr agR) 0 31), ()) (insert (SemLoc.dma (semAt (arr agR) 0 30), ()) (W)))) -∗ Q r))
      ⊢ wp frame (wpE (defs₀ (F := F)) 𝒱₀ c none) Set.univ (k0_part121 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3005 c1_i32_3836) Q :=
  part121_spec m K c v2 v3005 c1_i32_3836 f2 W Q

theorem part134_spec' (c : Dev nD) (v2 : BitVec 32) (v3349 : BitVec 32) (f2 : Buf (Elt F) ((c : Thread nD τ).loc cc0_stg2_0)) (W : Waits sig Unit) (Q : (PUnit) → sProp 𝕄) :
    iprop(recvRes m K agR c 1 30
      ∗ recvRes m K agR c 1 31
      ∗ recvRes m K agS c 0 1
      ∗ levAts L lv
      ∗ outShareAt m c 1 0
      ∗ gotAgR m c 1 1
      ∗ gotAgR m c 1 2
      ∗ gotAgR m c 1 3
      ∗ gotAgR m c 1 4
      ∗ gotAgR m c 1 5
      ∗ gotAgR m c 1 6
      ∗ gotAgR m c 1 7
      ∗ gotAgR m c 1 8
      ∗ gotAgR m c 1 9
      ∗ gotAgR m c 1 10
      ∗ gotAgR m c 1 11
      ∗ gotAgR m c 1 12
      ∗ gotAgR m c 1 13
      ∗ gotAgR m c 1 14
      ∗ gotAgR m c 1 15
      ∗ gotAgR m c 1 16
      ∗ gotAgR m c 1 17
      ∗ gotAgR m c 1 18
      ∗ gotAgR m c 1 19
      ∗ gotAgR m c 1 20
      ∗ gotAgR m c 1 21
      ∗ gotAgR m c 1 22
      ∗ gotAgR m c 1 23
      ∗ gotAgR m c 1 24
      ∗ gotAgR m c 1 25
      ∗ gotAgR m c 1 26
      ∗ gotAgR m c 1 27
      ∗ gotAgR m c 1 28
      ∗ gotAgR m c 1 29
      ∗ ((Memref.whole cc0_stg2_0).view.loc (c : Thread nD τ) ↦{fullShare} stg2Mid m c f2)
      ∗ owes (c : Thread nD τ) (owedAfter c 155) W
      ∗ (∀ r, (outShareAt m c 1 0 ∗ gotAgR m c 1 1 ∗ gotAgR m c 1 2 ∗ gotAgR m c 1 3 ∗ gotAgR m c 1 4 ∗ gotAgR m c 1 5 ∗ gotAgR m c 1 6 ∗ gotAgR m c 1 7 ∗ gotAgR m c 1 8 ∗ gotAgR m c 1 9 ∗ gotAgR m c 1 10 ∗ gotAgR m c 1 11 ∗ gotAgR m c 1 12 ∗ gotAgR m c 1 13 ∗ gotAgR m c 1 14 ∗ gotAgR m c 1 15 ∗ gotAgR m c 1 16 ∗ gotAgR m c 1 17 ∗ gotAgR m c 1 18 ∗ gotAgR m c 1 19 ∗ gotAgR m c 1 20 ∗ gotAgR m c 1 21 ∗ gotAgR m c 1 22 ∗ gotAgR m c 1 23 ∗ gotAgR m c 1 24 ∗ gotAgR m c 1 25 ∗ gotAgR m c 1 26 ∗ gotAgR m c 1 27 ∗ gotAgR m c 1 28 ∗ gotAgR m c 1 29 ∗ gotAgR m c 1 30 ∗ gotAgR m c 1 31 ∗ closedAt m K c 1 30 agR ∗ closedAt m K c 1 31 agR ∗ ((Memref.whole cc0_stg2_0).view.loc (c : Thread nD τ) ↦{fullShare} result m) ∗ outShareAt m c 0 1 ∗ closedAt m K c 0 1 agS ∗ owes (c : Thread nD τ) (owedAfter c 155) (insert (SemLoc.dma (semAt (arr agS) 0 1), ()) (insert (SemLoc.dma (semAt (arr agR) 1 31), ()) (insert (SemLoc.dma (semAt (arr agR) 1 30), ()) (W))))) -∗ Q r))
      ⊢ wp frame (wpE (defs₀ (F := F)) 𝒱₀ c none) Set.univ (k0_part134 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3349) Q :=
  part134_spec m K c v2 v3349 f2 W Q

/-! ## The last wait -/

attribute [local sl_rounds] duties_dma amount_dma expect_dma pay_agS in
set_option maxHeartbeats 4000000 in
/-- The last wait of the body: the departure of the gather copy of offset 31, half 1. -/
theorem tail_spec (c : Dev nD) (W : Waits sig Unit) (Q : PUnit → sProp 𝕄) :
    iprop(recvRes m K agS c 1 31
      ∗ levAts L lv
      ∗ owes (c : Thread nD τ) (owedAfter c 155) W
      ∗ (∀ r, (outShareAt m c 1 31 ∗ closedAt m K c 1 31 agS
          ∗ owes (c : Thread nD τ) (owedAfter c 155) (insert (SemLoc.dma (semAt (arr agS) 1 31), ()) (W))) -∗ Q r))
      ⊢ wp frame (wpE (defs₀ (F := F)) 𝒱₀ c none) Set.univ (Prog.lift (.waitDma2 ((cc0_scratch5.slice (Rect.unit (s := S2x32) ![1, 31] S1x1.size inb_S2x32_S1x1_1_31)).squeeze S_ squeezes_S1x1_S_).sem
        ((Memref.whole cc0_scratch1).slice (Rect.unit (s := S1024x1024) (k0_off6 c) S32x512.size (k0_off6_inb c)) (fun _ => rfl))
        ((Memref.whole cc0_scratch1).slice (Rect.unit (s := S1024x1024) (k0_off6 c) S32x512.size (k0_off6_inb c)) (fun _ => rfl))
        ((Memref.isWhole_whole (cc0_scratch1 : Ref sig .tc)).wordExact_slice rfl _ (k0_off6_wordsbf16 c)) ((Memref.isWhole_whole (cc0_scratch1 : Ref sig .tc)).wordExact_slice rfl _ (k0_off6_wordsbf16 c)))
      : Prog (TpuEff nD τ sig (Elt F) Λ₀ .tc) PUnit) Q := by
  unfold recvRes outShareAt closedAt
  iintro ⟨⟨#IagS1_31, AagS1_31, CagS1_31⟩, #Hlev, HO, Hk⟩
  have hmwagS1_31 := mayWait_end (F := F) c (.dma (semAt (arr agS) 1 31))
  sl_exec_parts
  sl_step
  iapply Hk
  isplitl [AagS1_31_pay1]; · iexact AagS1_31_pay1
  isplitl [AagS1_31]; · (isplitr; · iexact IagS1_31); iexact AagS1_31
  iexact HO

/-! ## The two grouping parts -/

set_option maxRecDepth 100000 in
set_option maxHeartbeats 4000000 in
theorem part147_spec (c : Dev nD) (f3 : Buf (Elt F) ((c : Thread nD τ).loc cc0_scratch0)) (fo : Buf (Elt F) ((c : Thread nD τ).loc cc0_scratch1)) (fb : Buf (Elt F) ((c : Thread nD τ).loc cc0_scratch2)) (W : Waits sig Unit) (Q : (Σ' (d0 : Dev nD), BitVec 32) → sProp 𝕄) :
    iprop(owes (c : Thread nD τ) (owedAfter c 0) W
      ∗ levAts L lv
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => sigRes m K c k)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => slotAt c 0 fb (opp k))
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => slotAt c 1 fb (opp k))
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => outAt c 0 k fo)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => outAt c 1 k fo)
      ∗ ((Memref.whole cc0_stg0_0).view.loc (c : Thread nD τ) ↦{fullShare} xIn m c)
      ∗ ((Memref.whole cc0_stg1_0).view.loc (c : Thread nD τ) ↦{fullShare} wIn m c)
      ∗ ((Memref.whole cc0_scratch0).view.loc (c : Thread nD τ) ↦{fullShare} f3)
      ∗ bigSepL ([0] : List (Fin 32)) (fun k : Fin 32 => slotAt c 0 fb (opp k))
      ∗ barRes m K c
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => copyRes m K rsS rsR c 0 k)
      ∗ bigSepL ([0] : List (Fin 32)) (fun k : Fin 32 => slotAt c 1 fb (opp k))
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => copyRes m K rsS rsR c 1 k)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K rsR c 0 k)
      ∗ bigSepL ([0] : List (Fin 32)) (fun k : Fin 32 => outAt c 0 k fo)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => copyRes m K agS agR c 0 k)
      ∗ (∀ (v2 : BitVec 32), (owes (c : Thread nD τ) (owedAfter c 117) (((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))) ∗ ((Memref.whole cc0_stg0_0).view.loc (c : Thread nD τ) ↦{fullShare} xIn m c) ∗ ((Memref.whole cc0_stg1_0).view.loc (c : Thread nD τ) ↦{fullShare} wIn m c) ∗ bigSepL ([0] : List (Fin 32)) (fun k : Fin 32 => accSrcAt m c 0 k) ∗ bigSepL ([0, 1, 2, 3, 4, 5, 6, 7, 8, 9, 10, 11, 12, 13, 14, 15, 16, 17, 18, 19, 20, 21, 22, 23, 24, 25, 26, 27, 28, 29, 30, 31] : List (Fin 32)) (fun k : Fin 32 => gotRsR m c 0 k) ∗ bigSepL ([25, 26, 27, 28, 29, 30, 31] : List (Fin 32)) (fun k : Fin 32 => peerOutAt c 0 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => peerOutAt c 1 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K rsS c 0 k) ∗ bigSepL ([0] : List (Fin 32)) (fun k : Fin 32 => accSrcAt m c 1 k) ∗ bigSepL ([0] : List (Fin 32)) (fun k : Fin 32 => gotRsR m c 1 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K rsS c 1 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => closedAt m K c 0 k rsR) ∗ bigSepL ([0] : List (Fin 32)) (fun k : Fin 32 => outShareAt m c 0 k) ∗ bigSepL ([25, 26, 27, 28, 29, 30, 31] : List (Fin 32)) (fun k : Fin 32 => outShareAt m c 0 k) ∗ bigSepL ([25, 26, 27, 28, 29, 30, 31] : List (Fin 32)) (fun k : Fin 32 => copyRes m K agS agR c 0 k) ∗ bigSepL ([1, 2, 3, 4, 5, 6, 7, 8, 9, 10, 11, 12, 13, 14, 15, 16, 17, 18, 19, 20, 21, 22, 23, 24] : List (Fin 32)) (fun k : Fin 32 => recvRes m K agS c 0 k)) -∗ Q ⟨c, v2⟩))
      ⊢ wp frame (wpE (defs₀ (F := F)) 𝒱₀ c none) Set.univ (k0_part147 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q := by
  rw [k0_part147_eq_skeleton]; unfold k0_part147_skel
  iintro ⟨H_owes, #Hlev, F_sigRes, F_slot_0, F_slot_1, F_out_0, F_out_1, F_stgX, F_stgW, F_accWhole, F_slot0_0, F_barRes, F_copyRes_rsS_0, F_slot0_1, F_copyRes_rsS_1, F_recvRes_rsR_0, F_out0_0, F_copyRes_agS_0, Hk⟩
  -- k0_part1
  icases (bigSepL_pop (fun k : Fin 32 => sigRes m K c k) 1 2 [3, 4, 5, 6, 7, 8, 9, 10, 11, 12, 13, 14, 15, 16, 17, 18, 19, 20, 21, 22, 23, 24, 25, 26, 27, 28, 29, 30, 31]) $$ F_sigRes with ⟨T1, F_sigRes⟩
  icases (bigSepL_pop (fun k : Fin 32 => slotAt c 0 fb (opp k)) 1 2 [3, 4, 5, 6, 7, 8, 9, 10, 11, 12, 13, 14, 15, 16, 17, 18, 19, 20, 21, 22, 23, 24, 25, 26, 27, 28, 29, 30, 31]) $$ F_slot_0 with ⟨T2, F_slot_0⟩
  icases (bigSepL_pop (fun k : Fin 32 => slotAt c 1 fb (opp k)) 1 2 [3, 4, 5, 6, 7, 8, 9, 10, 11, 12, 13, 14, 15, 16, 17, 18, 19, 20, 21, 22, 23, 24, 25, 26, 27, 28, 29, 30, 31]) $$ F_slot_1 with ⟨T3, F_slot_1⟩
  icases (bigSepL_pop (fun k : Fin 32 => outAt c 0 k fo) 1 2 [3, 4, 5, 6, 7, 8, 9, 10, 11, 12, 13, 14, 15, 16, 17, 18, 19, 20, 21, 22, 23, 24, 25, 26, 27, 28, 29, 30, 31]) $$ F_out_0 with ⟨T4, F_out_0⟩
  icases (bigSepL_pop (fun k : Fin 32 => outAt c 1 k fo) 1 2 [3, 4, 5, 6, 7, 8, 9, 10, 11, 12, 13, 14, 15, 16, 17, 18, 19, 20, 21, 22, 23, 24, 25, 26, 27, 28, 29, 30, 31]) $$ F_out_1 with ⟨T5, F_out_1⟩
  icases (bigSepL_pop (fun k : Fin 32 => sigRes m K c k) 2 3 [4, 5, 6, 7, 8, 9, 10, 11, 12, 13, 14, 15, 16, 17, 18, 19, 20, 21, 22, 23, 24, 25, 26, 27, 28, 29, 30, 31]) $$ F_sigRes with ⟨T6, F_sigRes⟩
  icases (bigSepL_pop (fun k : Fin 32 => slotAt c 0 fb (opp k)) 2 3 [4, 5, 6, 7, 8, 9, 10, 11, 12, 13, 14, 15, 16, 17, 18, 19, 20, 21, 22, 23, 24, 25, 26, 27, 28, 29, 30, 31]) $$ F_slot_0 with ⟨T7, F_slot_0⟩
  icases (bigSepL_pop (fun k : Fin 32 => slotAt c 1 fb (opp k)) 2 3 [4, 5, 6, 7, 8, 9, 10, 11, 12, 13, 14, 15, 16, 17, 18, 19, 20, 21, 22, 23, 24, 25, 26, 27, 28, 29, 30, 31]) $$ F_slot_1 with ⟨T8, F_slot_1⟩
  icases (bigSepL_pop (fun k : Fin 32 => outAt c 0 k fo) 2 3 [4, 5, 6, 7, 8, 9, 10, 11, 12, 13, 14, 15, 16, 17, 18, 19, 20, 21, 22, 23, 24, 25, 26, 27, 28, 29, 30, 31]) $$ F_out_0 with ⟨T9, F_out_0⟩
  icases (bigSepL_pop (fun k : Fin 32 => outAt c 1 k fo) 2 3 [4, 5, 6, 7, 8, 9, 10, 11, 12, 13, 14, 15, 16, 17, 18, 19, 20, 21, 22, 23, 24, 25, 26, 27, 28, 29, 30, 31]) $$ F_out_1 with ⟨T10, F_out_1⟩
  icases (bigSepL_pop (fun k : Fin 32 => sigRes m K c k) 3 4 [5, 6, 7, 8, 9, 10, 11, 12, 13, 14, 15, 16, 17, 18, 19, 20, 21, 22, 23, 24, 25, 26, 27, 28, 29, 30, 31]) $$ F_sigRes with ⟨T11, F_sigRes⟩
  icases (bigSepL_pop (fun k : Fin 32 => slotAt c 0 fb (opp k)) 3 4 [5, 6, 7, 8, 9, 10, 11, 12, 13, 14, 15, 16, 17, 18, 19, 20, 21, 22, 23, 24, 25, 26, 27, 28, 29, 30, 31]) $$ F_slot_0 with ⟨T12, F_slot_0⟩
  icases (bigSepL_pop (fun k : Fin 32 => slotAt c 1 fb (opp k)) 3 4 [5, 6, 7, 8, 9, 10, 11, 12, 13, 14, 15, 16, 17, 18, 19, 20, 21, 22, 23, 24, 25, 26, 27, 28, 29, 30, 31]) $$ F_slot_1 with ⟨T13, F_slot_1⟩
  icases (bigSepL_pop (fun k : Fin 32 => outAt c 0 k fo) 3 4 [5, 6, 7, 8, 9, 10, 11, 12, 13, 14, 15, 16, 17, 18, 19, 20, 21, 22, 23, 24, 25, 26, 27, 28, 29, 30, 31]) $$ F_out_0 with ⟨T14, F_out_0⟩
  icases (bigSepL_pop (fun k : Fin 32 => outAt c 1 k fo) 3 4 [5, 6, 7, 8, 9, 10, 11, 12, 13, 14, 15, 16, 17, 18, 19, 20, 21, 22, 23, 24, 25, 26, 27, 28, 29, 30, 31]) $$ F_out_1 with ⟨T15, F_out_1⟩
  icases (bigSepL_pop (fun k : Fin 32 => sigRes m K c k) 4 5 [6, 7, 8, 9, 10, 11, 12, 13, 14, 15, 16, 17, 18, 19, 20, 21, 22, 23, 24, 25, 26, 27, 28, 29, 30, 31]) $$ F_sigRes with ⟨T16, F_sigRes⟩
  icases (bigSepL_pop (fun k : Fin 32 => slotAt c 0 fb (opp k)) 4 5 [6, 7, 8, 9, 10, 11, 12, 13, 14, 15, 16, 17, 18, 19, 20, 21, 22, 23, 24, 25, 26, 27, 28, 29, 30, 31]) $$ F_slot_0 with ⟨T17, F_slot_0⟩
  icases (bigSepL_pop (fun k : Fin 32 => slotAt c 1 fb (opp k)) 4 5 [6, 7, 8, 9, 10, 11, 12, 13, 14, 15, 16, 17, 18, 19, 20, 21, 22, 23, 24, 25, 26, 27, 28, 29, 30, 31]) $$ F_slot_1 with ⟨T18, F_slot_1⟩
  icases (bigSepL_pop (fun k : Fin 32 => outAt c 0 k fo) 4 5 [6, 7, 8, 9, 10, 11, 12, 13, 14, 15, 16, 17, 18, 19, 20, 21, 22, 23, 24, 25, 26, 27, 28, 29, 30, 31]) $$ F_out_0 with ⟨T19, F_out_0⟩
  icases (bigSepL_pop (fun k : Fin 32 => outAt c 1 k fo) 4 5 [6, 7, 8, 9, 10, 11, 12, 13, 14, 15, 16, 17, 18, 19, 20, 21, 22, 23, 24, 25, 26, 27, 28, 29, 30, 31]) $$ F_out_1 with ⟨T20, F_out_1⟩
  icases (bigSepL_pop (fun k : Fin 32 => sigRes m K c k) 5 6 [7, 8, 9, 10, 11, 12, 13, 14, 15, 16, 17, 18, 19, 20, 21, 22, 23, 24, 25, 26, 27, 28, 29, 30, 31]) $$ F_sigRes with ⟨T21, F_sigRes⟩
  icases (bigSepL_pop (fun k : Fin 32 => slotAt c 0 fb (opp k)) 5 6 [7, 8, 9, 10, 11, 12, 13, 14, 15, 16, 17, 18, 19, 20, 21, 22, 23, 24, 25, 26, 27, 28, 29, 30, 31]) $$ F_slot_0 with ⟨T22, F_slot_0⟩
  icases (bigSepL_pop (fun k : Fin 32 => slotAt c 1 fb (opp k)) 5 6 [7, 8, 9, 10, 11, 12, 13, 14, 15, 16, 17, 18, 19, 20, 21, 22, 23, 24, 25, 26, 27, 28, 29, 30, 31]) $$ F_slot_1 with ⟨T23, F_slot_1⟩
  icases (bigSepL_pop (fun k : Fin 32 => outAt c 0 k fo) 5 6 [7, 8, 9, 10, 11, 12, 13, 14, 15, 16, 17, 18, 19, 20, 21, 22, 23, 24, 25, 26, 27, 28, 29, 30, 31]) $$ F_out_0 with ⟨T24, F_out_0⟩
  icases (bigSepL_pop (fun k : Fin 32 => outAt c 1 k fo) 5 6 [7, 8, 9, 10, 11, 12, 13, 14, 15, 16, 17, 18, 19, 20, 21, 22, 23, 24, 25, 26, 27, 28, 29, 30, 31]) $$ F_out_1 with ⟨T25, F_out_1⟩
  rw [owed_step_0 c, owed_step_1 c, owed_step_2 c, owed_step_3 c, owed_step_4 c]
  rw [wp_bind]
  iapply (part1_spec' m K c fo fb (owedAfter c 5) (W))
  isplitl [T1]
  · iexact T1
  isplitl [T2]
  · iexact T2
  isplitl [T3]
  · iexact T3
  isplitl [T4]
  · iexact T4
  isplitl [T5]
  · iexact T5
  isplitl [T6]
  · iexact T6
  isplitl [T7]
  · iexact T7
  isplitl [T8]
  · iexact T8
  isplitl [T9]
  · iexact T9
  isplitl [T10]
  · iexact T10
  isplitl [T11]
  · iexact T11
  isplitl [T12]
  · iexact T12
  isplitl [T13]
  · iexact T13
  isplitl [T14]
  · iexact T14
  isplitl [T15]
  · iexact T15
  isplitl [T16]
  · iexact T16
  isplitl [T17]
  · iexact T17
  isplitl [T18]
  · iexact T18
  isplitl [T19]
  · iexact T19
  isplitl [T20]
  · iexact T20
  isplitl [T21]
  · iexact T21
  isplitl [T22]
  · iexact T22
  isplitl [T23]
  · iexact T23
  isplitl [T24]
  · iexact T24
  isplitl [T25]
  · iexact T25
  isplitl [H_owes]
  · iexact H_owes
  iintro %v2 %v24 %x H_owes
  try dsimp only
  -- k0_part2
  icases (bigSepL_pop (fun k : Fin 32 => sigRes m K c k) 6 7 [8, 9, 10, 11, 12, 13, 14, 15, 16, 17, 18, 19, 20, 21, 22, 23, 24, 25, 26, 27, 28, 29, 30, 31]) $$ F_sigRes with ⟨T26, F_sigRes⟩
  icases (bigSepL_pop (fun k : Fin 32 => slotAt c 0 fb (opp k)) 6 7 [8, 9, 10, 11, 12, 13, 14, 15, 16, 17, 18, 19, 20, 21, 22, 23, 24, 25, 26, 27, 28, 29, 30, 31]) $$ F_slot_0 with ⟨T27, F_slot_0⟩
  icases (bigSepL_pop (fun k : Fin 32 => slotAt c 1 fb (opp k)) 6 7 [8, 9, 10, 11, 12, 13, 14, 15, 16, 17, 18, 19, 20, 21, 22, 23, 24, 25, 26, 27, 28, 29, 30, 31]) $$ F_slot_1 with ⟨T28, F_slot_1⟩
  icases (bigSepL_pop (fun k : Fin 32 => outAt c 0 k fo) 6 7 [8, 9, 10, 11, 12, 13, 14, 15, 16, 17, 18, 19, 20, 21, 22, 23, 24, 25, 26, 27, 28, 29, 30, 31]) $$ F_out_0 with ⟨T29, F_out_0⟩
  icases (bigSepL_pop (fun k : Fin 32 => outAt c 1 k fo) 6 7 [8, 9, 10, 11, 12, 13, 14, 15, 16, 17, 18, 19, 20, 21, 22, 23, 24, 25, 26, 27, 28, 29, 30, 31]) $$ F_out_1 with ⟨T30, F_out_1⟩
  icases (bigSepL_pop (fun k : Fin 32 => sigRes m K c k) 7 8 [9, 10, 11, 12, 13, 14, 15, 16, 17, 18, 19, 20, 21, 22, 23, 24, 25, 26, 27, 28, 29, 30, 31]) $$ F_sigRes with ⟨T31, F_sigRes⟩
  icases (bigSepL_pop (fun k : Fin 32 => slotAt c 0 fb (opp k)) 7 8 [9, 10, 11, 12, 13, 14, 15, 16, 17, 18, 19, 20, 21, 22, 23, 24, 25, 26, 27, 28, 29, 30, 31]) $$ F_slot_0 with ⟨T32, F_slot_0⟩
  icases (bigSepL_pop (fun k : Fin 32 => slotAt c 1 fb (opp k)) 7 8 [9, 10, 11, 12, 13, 14, 15, 16, 17, 18, 19, 20, 21, 22, 23, 24, 25, 26, 27, 28, 29, 30, 31]) $$ F_slot_1 with ⟨T33, F_slot_1⟩
  icases (bigSepL_pop (fun k : Fin 32 => outAt c 0 k fo) 7 8 [9, 10, 11, 12, 13, 14, 15, 16, 17, 18, 19, 20, 21, 22, 23, 24, 25, 26, 27, 28, 29, 30, 31]) $$ F_out_0 with ⟨T34, F_out_0⟩
  icases (bigSepL_pop (fun k : Fin 32 => outAt c 1 k fo) 7 8 [9, 10, 11, 12, 13, 14, 15, 16, 17, 18, 19, 20, 21, 22, 23, 24, 25, 26, 27, 28, 29, 30, 31]) $$ F_out_1 with ⟨T35, F_out_1⟩
  icases (bigSepL_pop (fun k : Fin 32 => sigRes m K c k) 8 9 [10, 11, 12, 13, 14, 15, 16, 17, 18, 19, 20, 21, 22, 23, 24, 25, 26, 27, 28, 29, 30, 31]) $$ F_sigRes with ⟨T36, F_sigRes⟩
  icases (bigSepL_pop (fun k : Fin 32 => slotAt c 0 fb (opp k)) 8 9 [10, 11, 12, 13, 14, 15, 16, 17, 18, 19, 20, 21, 22, 23, 24, 25, 26, 27, 28, 29, 30, 31]) $$ F_slot_0 with ⟨T37, F_slot_0⟩
  icases (bigSepL_pop (fun k : Fin 32 => slotAt c 1 fb (opp k)) 8 9 [10, 11, 12, 13, 14, 15, 16, 17, 18, 19, 20, 21, 22, 23, 24, 25, 26, 27, 28, 29, 30, 31]) $$ F_slot_1 with ⟨T38, F_slot_1⟩
  icases (bigSepL_pop (fun k : Fin 32 => outAt c 0 k fo) 8 9 [10, 11, 12, 13, 14, 15, 16, 17, 18, 19, 20, 21, 22, 23, 24, 25, 26, 27, 28, 29, 30, 31]) $$ F_out_0 with ⟨T39, F_out_0⟩
  icases (bigSepL_pop (fun k : Fin 32 => outAt c 1 k fo) 8 9 [10, 11, 12, 13, 14, 15, 16, 17, 18, 19, 20, 21, 22, 23, 24, 25, 26, 27, 28, 29, 30, 31]) $$ F_out_1 with ⟨T40, F_out_1⟩
  icases (bigSepL_pop (fun k : Fin 32 => sigRes m K c k) 9 10 [11, 12, 13, 14, 15, 16, 17, 18, 19, 20, 21, 22, 23, 24, 25, 26, 27, 28, 29, 30, 31]) $$ F_sigRes with ⟨T41, F_sigRes⟩
  icases (bigSepL_pop (fun k : Fin 32 => slotAt c 0 fb (opp k)) 9 10 [11, 12, 13, 14, 15, 16, 17, 18, 19, 20, 21, 22, 23, 24, 25, 26, 27, 28, 29, 30, 31]) $$ F_slot_0 with ⟨T42, F_slot_0⟩
  icases (bigSepL_pop (fun k : Fin 32 => slotAt c 1 fb (opp k)) 9 10 [11, 12, 13, 14, 15, 16, 17, 18, 19, 20, 21, 22, 23, 24, 25, 26, 27, 28, 29, 30, 31]) $$ F_slot_1 with ⟨T43, F_slot_1⟩
  icases (bigSepL_pop (fun k : Fin 32 => outAt c 0 k fo) 9 10 [11, 12, 13, 14, 15, 16, 17, 18, 19, 20, 21, 22, 23, 24, 25, 26, 27, 28, 29, 30, 31]) $$ F_out_0 with ⟨T44, F_out_0⟩
  icases (bigSepL_pop (fun k : Fin 32 => outAt c 1 k fo) 9 10 [11, 12, 13, 14, 15, 16, 17, 18, 19, 20, 21, 22, 23, 24, 25, 26, 27, 28, 29, 30, 31]) $$ F_out_1 with ⟨T45, F_out_1⟩
  icases (bigSepL_pop (fun k : Fin 32 => sigRes m K c k) 10 11 [12, 13, 14, 15, 16, 17, 18, 19, 20, 21, 22, 23, 24, 25, 26, 27, 28, 29, 30, 31]) $$ F_sigRes with ⟨T46, F_sigRes⟩
  icases (bigSepL_pop (fun k : Fin 32 => slotAt c 0 fb (opp k)) 10 11 [12, 13, 14, 15, 16, 17, 18, 19, 20, 21, 22, 23, 24, 25, 26, 27, 28, 29, 30, 31]) $$ F_slot_0 with ⟨T47, F_slot_0⟩
  icases (bigSepL_pop (fun k : Fin 32 => slotAt c 1 fb (opp k)) 10 11 [12, 13, 14, 15, 16, 17, 18, 19, 20, 21, 22, 23, 24, 25, 26, 27, 28, 29, 30, 31]) $$ F_slot_1 with ⟨T48, F_slot_1⟩
  icases (bigSepL_pop (fun k : Fin 32 => outAt c 0 k fo) 10 11 [12, 13, 14, 15, 16, 17, 18, 19, 20, 21, 22, 23, 24, 25, 26, 27, 28, 29, 30, 31]) $$ F_out_0 with ⟨T49, F_out_0⟩
  icases (bigSepL_pop (fun k : Fin 32 => outAt c 1 k fo) 10 11 [12, 13, 14, 15, 16, 17, 18, 19, 20, 21, 22, 23, 24, 25, 26, 27, 28, 29, 30, 31]) $$ F_out_1 with ⟨T50, F_out_1⟩
  icases (bigSepL_pop (fun k : Fin 32 => sigRes m K c k) 11 12 [13, 14, 15, 16, 17, 18, 19, 20, 21, 22, 23, 24, 25, 26, 27, 28, 29, 30, 31]) $$ F_sigRes with ⟨T51, F_sigRes⟩
  icases (bigSepL_pop (fun k : Fin 32 => slotAt c 0 fb (opp k)) 11 12 [13, 14, 15, 16, 17, 18, 19, 20, 21, 22, 23, 24, 25, 26, 27, 28, 29, 30, 31]) $$ F_slot_0 with ⟨T52, F_slot_0⟩
  icases (bigSepL_pop (fun k : Fin 32 => slotAt c 1 fb (opp k)) 11 12 [13, 14, 15, 16, 17, 18, 19, 20, 21, 22, 23, 24, 25, 26, 27, 28, 29, 30, 31]) $$ F_slot_1 with ⟨T53, F_slot_1⟩
  icases (bigSepL_pop (fun k : Fin 32 => outAt c 0 k fo) 11 12 [13, 14, 15, 16, 17, 18, 19, 20, 21, 22, 23, 24, 25, 26, 27, 28, 29, 30, 31]) $$ F_out_0 with ⟨T54, F_out_0⟩
  icases (bigSepL_pop (fun k : Fin 32 => outAt c 1 k fo) 11 12 [13, 14, 15, 16, 17, 18, 19, 20, 21, 22, 23, 24, 25, 26, 27, 28, 29, 30, 31]) $$ F_out_1 with ⟨T55, F_out_1⟩
  rw [owed_step_5 c, owed_step_6 c, owed_step_7 c, owed_step_8 c, owed_step_9 c, owed_step_10 c]
  rw [wp_bind]
  iapply (part2_spec' m K c _ _ _ fo fb (owedAfter c 11) (W))
  isplitl [T26]
  · iexact T26
  isplitl [T27]
  · iexact T27
  isplitl [T28]
  · iexact T28
  isplitl [T29]
  · iexact T29
  isplitl [T30]
  · iexact T30
  isplitl [T31]
  · iexact T31
  isplitl [T32]
  · iexact T32
  isplitl [T33]
  · iexact T33
  isplitl [T34]
  · iexact T34
  isplitl [T35]
  · iexact T35
  isplitl [T36]
  · iexact T36
  isplitl [T37]
  · iexact T37
  isplitl [T38]
  · iexact T38
  isplitl [T39]
  · iexact T39
  isplitl [T40]
  · iexact T40
  isplitl [T41]
  · iexact T41
  isplitl [T42]
  · iexact T42
  isplitl [T43]
  · iexact T43
  isplitl [T44]
  · iexact T44
  isplitl [T45]
  · iexact T45
  isplitl [T46]
  · iexact T46
  isplitl [T47]
  · iexact T47
  isplitl [T48]
  · iexact T48
  isplitl [T49]
  · iexact T49
  isplitl [T50]
  · iexact T50
  isplitl [T51]
  · iexact T51
  isplitl [T52]
  · iexact T52
  isplitl [T53]
  · iexact T53
  isplitl [T54]
  · iexact T54
  isplitl [T55]
  · iexact T55
  isplitl [H_owes]
  · iexact H_owes
  iintro %r H_owes
  obtain ⟨v48, c32_i32_44⟩ := r
  try dsimp only
  -- k0_part3
  icases (bigSepL_pop (fun k : Fin 32 => sigRes m K c k) 12 13 [14, 15, 16, 17, 18, 19, 20, 21, 22, 23, 24, 25, 26, 27, 28, 29, 30, 31]) $$ F_sigRes with ⟨T56, F_sigRes⟩
  icases (bigSepL_pop (fun k : Fin 32 => slotAt c 0 fb (opp k)) 12 13 [14, 15, 16, 17, 18, 19, 20, 21, 22, 23, 24, 25, 26, 27, 28, 29, 30, 31]) $$ F_slot_0 with ⟨T57, F_slot_0⟩
  icases (bigSepL_pop (fun k : Fin 32 => slotAt c 1 fb (opp k)) 12 13 [14, 15, 16, 17, 18, 19, 20, 21, 22, 23, 24, 25, 26, 27, 28, 29, 30, 31]) $$ F_slot_1 with ⟨T58, F_slot_1⟩
  icases (bigSepL_pop (fun k : Fin 32 => outAt c 0 k fo) 12 13 [14, 15, 16, 17, 18, 19, 20, 21, 22, 23, 24, 25, 26, 27, 28, 29, 30, 31]) $$ F_out_0 with ⟨T59, F_out_0⟩
  icases (bigSepL_pop (fun k : Fin 32 => outAt c 1 k fo) 12 13 [14, 15, 16, 17, 18, 19, 20, 21, 22, 23, 24, 25, 26, 27, 28, 29, 30, 31]) $$ F_out_1 with ⟨T60, F_out_1⟩
  icases (bigSepL_pop (fun k : Fin 32 => sigRes m K c k) 13 14 [15, 16, 17, 18, 19, 20, 21, 22, 23, 24, 25, 26, 27, 28, 29, 30, 31]) $$ F_sigRes with ⟨T61, F_sigRes⟩
  icases (bigSepL_pop (fun k : Fin 32 => slotAt c 0 fb (opp k)) 13 14 [15, 16, 17, 18, 19, 20, 21, 22, 23, 24, 25, 26, 27, 28, 29, 30, 31]) $$ F_slot_0 with ⟨T62, F_slot_0⟩
  icases (bigSepL_pop (fun k : Fin 32 => slotAt c 1 fb (opp k)) 13 14 [15, 16, 17, 18, 19, 20, 21, 22, 23, 24, 25, 26, 27, 28, 29, 30, 31]) $$ F_slot_1 with ⟨T63, F_slot_1⟩
  icases (bigSepL_pop (fun k : Fin 32 => outAt c 0 k fo) 13 14 [15, 16, 17, 18, 19, 20, 21, 22, 23, 24, 25, 26, 27, 28, 29, 30, 31]) $$ F_out_0 with ⟨T64, F_out_0⟩
  icases (bigSepL_pop (fun k : Fin 32 => outAt c 1 k fo) 13 14 [15, 16, 17, 18, 19, 20, 21, 22, 23, 24, 25, 26, 27, 28, 29, 30, 31]) $$ F_out_1 with ⟨T65, F_out_1⟩
  icases (bigSepL_pop (fun k : Fin 32 => sigRes m K c k) 14 15 [16, 17, 18, 19, 20, 21, 22, 23, 24, 25, 26, 27, 28, 29, 30, 31]) $$ F_sigRes with ⟨T66, F_sigRes⟩
  icases (bigSepL_pop (fun k : Fin 32 => slotAt c 0 fb (opp k)) 14 15 [16, 17, 18, 19, 20, 21, 22, 23, 24, 25, 26, 27, 28, 29, 30, 31]) $$ F_slot_0 with ⟨T67, F_slot_0⟩
  icases (bigSepL_pop (fun k : Fin 32 => slotAt c 1 fb (opp k)) 14 15 [16, 17, 18, 19, 20, 21, 22, 23, 24, 25, 26, 27, 28, 29, 30, 31]) $$ F_slot_1 with ⟨T68, F_slot_1⟩
  icases (bigSepL_pop (fun k : Fin 32 => outAt c 0 k fo) 14 15 [16, 17, 18, 19, 20, 21, 22, 23, 24, 25, 26, 27, 28, 29, 30, 31]) $$ F_out_0 with ⟨T69, F_out_0⟩
  icases (bigSepL_pop (fun k : Fin 32 => outAt c 1 k fo) 14 15 [16, 17, 18, 19, 20, 21, 22, 23, 24, 25, 26, 27, 28, 29, 30, 31]) $$ F_out_1 with ⟨T70, F_out_1⟩
  icases (bigSepL_pop (fun k : Fin 32 => sigRes m K c k) 15 16 [17, 18, 19, 20, 21, 22, 23, 24, 25, 26, 27, 28, 29, 30, 31]) $$ F_sigRes with ⟨T71, F_sigRes⟩
  icases (bigSepL_pop (fun k : Fin 32 => slotAt c 0 fb (opp k)) 15 16 [17, 18, 19, 20, 21, 22, 23, 24, 25, 26, 27, 28, 29, 30, 31]) $$ F_slot_0 with ⟨T72, F_slot_0⟩
  icases (bigSepL_pop (fun k : Fin 32 => slotAt c 1 fb (opp k)) 15 16 [17, 18, 19, 20, 21, 22, 23, 24, 25, 26, 27, 28, 29, 30, 31]) $$ F_slot_1 with ⟨T73, F_slot_1⟩
  icases (bigSepL_pop (fun k : Fin 32 => outAt c 0 k fo) 15 16 [17, 18, 19, 20, 21, 22, 23, 24, 25, 26, 27, 28, 29, 30, 31]) $$ F_out_0 with ⟨T74, F_out_0⟩
  icases (bigSepL_pop (fun k : Fin 32 => outAt c 1 k fo) 15 16 [17, 18, 19, 20, 21, 22, 23, 24, 25, 26, 27, 28, 29, 30, 31]) $$ F_out_1 with ⟨T75, F_out_1⟩
  icases (bigSepL_pop (fun k : Fin 32 => sigRes m K c k) 16 17 [18, 19, 20, 21, 22, 23, 24, 25, 26, 27, 28, 29, 30, 31]) $$ F_sigRes with ⟨T76, F_sigRes⟩
  icases (bigSepL_pop (fun k : Fin 32 => slotAt c 0 fb (opp k)) 16 17 [18, 19, 20, 21, 22, 23, 24, 25, 26, 27, 28, 29, 30, 31]) $$ F_slot_0 with ⟨T77, F_slot_0⟩
  icases (bigSepL_pop (fun k : Fin 32 => slotAt c 1 fb (opp k)) 16 17 [18, 19, 20, 21, 22, 23, 24, 25, 26, 27, 28, 29, 30, 31]) $$ F_slot_1 with ⟨T78, F_slot_1⟩
  icases (bigSepL_pop (fun k : Fin 32 => outAt c 0 k fo) 16 17 [18, 19, 20, 21, 22, 23, 24, 25, 26, 27, 28, 29, 30, 31]) $$ F_out_0 with ⟨T79, F_out_0⟩
  icases (bigSepL_pop (fun k : Fin 32 => outAt c 1 k fo) 16 17 [18, 19, 20, 21, 22, 23, 24, 25, 26, 27, 28, 29, 30, 31]) $$ F_out_1 with ⟨T80, F_out_1⟩
  icases (bigSepL_pop (fun k : Fin 32 => sigRes m K c k) 17 18 [19, 20, 21, 22, 23, 24, 25, 26, 27, 28, 29, 30, 31]) $$ F_sigRes with ⟨T81, F_sigRes⟩
  icases (bigSepL_pop (fun k : Fin 32 => slotAt c 0 fb (opp k)) 17 18 [19, 20, 21, 22, 23, 24, 25, 26, 27, 28, 29, 30, 31]) $$ F_slot_0 with ⟨T82, F_slot_0⟩
  icases (bigSepL_pop (fun k : Fin 32 => slotAt c 1 fb (opp k)) 17 18 [19, 20, 21, 22, 23, 24, 25, 26, 27, 28, 29, 30, 31]) $$ F_slot_1 with ⟨T83, F_slot_1⟩
  icases (bigSepL_pop (fun k : Fin 32 => outAt c 0 k fo) 17 18 [19, 20, 21, 22, 23, 24, 25, 26, 27, 28, 29, 30, 31]) $$ F_out_0 with ⟨T84, F_out_0⟩
  icases (bigSepL_pop (fun k : Fin 32 => outAt c 1 k fo) 17 18 [19, 20, 21, 22, 23, 24, 25, 26, 27, 28, 29, 30, 31]) $$ F_out_1 with ⟨T85, F_out_1⟩
  rw [owed_step_11 c, owed_step_12 c, owed_step_13 c, owed_step_14 c, owed_step_15 c, owed_step_16 c]
  rw [wp_bind]
  iapply (part3_spec' m K c _ _ _ fo fb (owedAfter c 17) (W))
  isplitl [T56]
  · iexact T56
  isplitl [T57]
  · iexact T57
  isplitl [T58]
  · iexact T58
  isplitl [T59]
  · iexact T59
  isplitl [T60]
  · iexact T60
  isplitl [T61]
  · iexact T61
  isplitl [T62]
  · iexact T62
  isplitl [T63]
  · iexact T63
  isplitl [T64]
  · iexact T64
  isplitl [T65]
  · iexact T65
  isplitl [T66]
  · iexact T66
  isplitl [T67]
  · iexact T67
  isplitl [T68]
  · iexact T68
  isplitl [T69]
  · iexact T69
  isplitl [T70]
  · iexact T70
  isplitl [T71]
  · iexact T71
  isplitl [T72]
  · iexact T72
  isplitl [T73]
  · iexact T73
  isplitl [T74]
  · iexact T74
  isplitl [T75]
  · iexact T75
  isplitl [T76]
  · iexact T76
  isplitl [T77]
  · iexact T77
  isplitl [T78]
  · iexact T78
  isplitl [T79]
  · iexact T79
  isplitl [T80]
  · iexact T80
  isplitl [T81]
  · iexact T81
  isplitl [T82]
  · iexact T82
  isplitl [T83]
  · iexact T83
  isplitl [T84]
  · iexact T84
  isplitl [T85]
  · iexact T85
  isplitl [H_owes]
  · iexact H_owes
  iintro %r H_owes
  obtain ⟨v72, c32_i32_68⟩ := r
  try dsimp only
  -- k0_part4
  icases (bigSepL_pop (fun k : Fin 32 => sigRes m K c k) 18 19 [20, 21, 22, 23, 24, 25, 26, 27, 28, 29, 30, 31]) $$ F_sigRes with ⟨T86, F_sigRes⟩
  icases (bigSepL_pop (fun k : Fin 32 => slotAt c 0 fb (opp k)) 18 19 [20, 21, 22, 23, 24, 25, 26, 27, 28, 29, 30, 31]) $$ F_slot_0 with ⟨T87, F_slot_0⟩
  icases (bigSepL_pop (fun k : Fin 32 => slotAt c 1 fb (opp k)) 18 19 [20, 21, 22, 23, 24, 25, 26, 27, 28, 29, 30, 31]) $$ F_slot_1 with ⟨T88, F_slot_1⟩
  icases (bigSepL_pop (fun k : Fin 32 => outAt c 0 k fo) 18 19 [20, 21, 22, 23, 24, 25, 26, 27, 28, 29, 30, 31]) $$ F_out_0 with ⟨T89, F_out_0⟩
  icases (bigSepL_pop (fun k : Fin 32 => outAt c 1 k fo) 18 19 [20, 21, 22, 23, 24, 25, 26, 27, 28, 29, 30, 31]) $$ F_out_1 with ⟨T90, F_out_1⟩
  icases (bigSepL_pop (fun k : Fin 32 => sigRes m K c k) 19 20 [21, 22, 23, 24, 25, 26, 27, 28, 29, 30, 31]) $$ F_sigRes with ⟨T91, F_sigRes⟩
  icases (bigSepL_pop (fun k : Fin 32 => slotAt c 0 fb (opp k)) 19 20 [21, 22, 23, 24, 25, 26, 27, 28, 29, 30, 31]) $$ F_slot_0 with ⟨T92, F_slot_0⟩
  icases (bigSepL_pop (fun k : Fin 32 => slotAt c 1 fb (opp k)) 19 20 [21, 22, 23, 24, 25, 26, 27, 28, 29, 30, 31]) $$ F_slot_1 with ⟨T93, F_slot_1⟩
  icases (bigSepL_pop (fun k : Fin 32 => outAt c 0 k fo) 19 20 [21, 22, 23, 24, 25, 26, 27, 28, 29, 30, 31]) $$ F_out_0 with ⟨T94, F_out_0⟩
  icases (bigSepL_pop (fun k : Fin 32 => outAt c 1 k fo) 19 20 [21, 22, 23, 24, 25, 26, 27, 28, 29, 30, 31]) $$ F_out_1 with ⟨T95, F_out_1⟩
  icases (bigSepL_pop (fun k : Fin 32 => sigRes m K c k) 20 21 [22, 23, 24, 25, 26, 27, 28, 29, 30, 31]) $$ F_sigRes with ⟨T96, F_sigRes⟩
  icases (bigSepL_pop (fun k : Fin 32 => slotAt c 0 fb (opp k)) 20 21 [22, 23, 24, 25, 26, 27, 28, 29, 30, 31]) $$ F_slot_0 with ⟨T97, F_slot_0⟩
  icases (bigSepL_pop (fun k : Fin 32 => slotAt c 1 fb (opp k)) 20 21 [22, 23, 24, 25, 26, 27, 28, 29, 30, 31]) $$ F_slot_1 with ⟨T98, F_slot_1⟩
  icases (bigSepL_pop (fun k : Fin 32 => outAt c 0 k fo) 20 21 [22, 23, 24, 25, 26, 27, 28, 29, 30, 31]) $$ F_out_0 with ⟨T99, F_out_0⟩
  icases (bigSepL_pop (fun k : Fin 32 => outAt c 1 k fo) 20 21 [22, 23, 24, 25, 26, 27, 28, 29, 30, 31]) $$ F_out_1 with ⟨T100, F_out_1⟩
  icases (bigSepL_pop (fun k : Fin 32 => sigRes m K c k) 21 22 [23, 24, 25, 26, 27, 28, 29, 30, 31]) $$ F_sigRes with ⟨T101, F_sigRes⟩
  icases (bigSepL_pop (fun k : Fin 32 => slotAt c 0 fb (opp k)) 21 22 [23, 24, 25, 26, 27, 28, 29, 30, 31]) $$ F_slot_0 with ⟨T102, F_slot_0⟩
  icases (bigSepL_pop (fun k : Fin 32 => slotAt c 1 fb (opp k)) 21 22 [23, 24, 25, 26, 27, 28, 29, 30, 31]) $$ F_slot_1 with ⟨T103, F_slot_1⟩
  icases (bigSepL_pop (fun k : Fin 32 => outAt c 0 k fo) 21 22 [23, 24, 25, 26, 27, 28, 29, 30, 31]) $$ F_out_0 with ⟨T104, F_out_0⟩
  icases (bigSepL_pop (fun k : Fin 32 => outAt c 1 k fo) 21 22 [23, 24, 25, 26, 27, 28, 29, 30, 31]) $$ F_out_1 with ⟨T105, F_out_1⟩
  icases (bigSepL_pop (fun k : Fin 32 => sigRes m K c k) 22 23 [24, 25, 26, 27, 28, 29, 30, 31]) $$ F_sigRes with ⟨T106, F_sigRes⟩
  icases (bigSepL_pop (fun k : Fin 32 => slotAt c 0 fb (opp k)) 22 23 [24, 25, 26, 27, 28, 29, 30, 31]) $$ F_slot_0 with ⟨T107, F_slot_0⟩
  icases (bigSepL_pop (fun k : Fin 32 => slotAt c 1 fb (opp k)) 22 23 [24, 25, 26, 27, 28, 29, 30, 31]) $$ F_slot_1 with ⟨T108, F_slot_1⟩
  icases (bigSepL_pop (fun k : Fin 32 => outAt c 0 k fo) 22 23 [24, 25, 26, 27, 28, 29, 30, 31]) $$ F_out_0 with ⟨T109, F_out_0⟩
  icases (bigSepL_pop (fun k : Fin 32 => outAt c 1 k fo) 22 23 [24, 25, 26, 27, 28, 29, 30, 31]) $$ F_out_1 with ⟨T110, F_out_1⟩
  icases (bigSepL_pop (fun k : Fin 32 => sigRes m K c k) 23 24 [25, 26, 27, 28, 29, 30, 31]) $$ F_sigRes with ⟨T111, F_sigRes⟩
  icases (bigSepL_pop (fun k : Fin 32 => slotAt c 0 fb (opp k)) 23 24 [25, 26, 27, 28, 29, 30, 31]) $$ F_slot_0 with ⟨T112, F_slot_0⟩
  icases (bigSepL_pop (fun k : Fin 32 => slotAt c 1 fb (opp k)) 23 24 [25, 26, 27, 28, 29, 30, 31]) $$ F_slot_1 with ⟨T113, F_slot_1⟩
  icases (bigSepL_pop (fun k : Fin 32 => outAt c 0 k fo) 23 24 [25, 26, 27, 28, 29, 30, 31]) $$ F_out_0 with ⟨T114, F_out_0⟩
  icases (bigSepL_pop (fun k : Fin 32 => outAt c 1 k fo) 23 24 [25, 26, 27, 28, 29, 30, 31]) $$ F_out_1 with ⟨T115, F_out_1⟩
  rw [owed_step_17 c, owed_step_18 c, owed_step_19 c, owed_step_20 c, owed_step_21 c, owed_step_22 c]
  rw [wp_bind]
  iapply (part4_spec' m K c _ _ _ fo fb (owedAfter c 23) (W))
  isplitl [T86]
  · iexact T86
  isplitl [T87]
  · iexact T87
  isplitl [T88]
  · iexact T88
  isplitl [T89]
  · iexact T89
  isplitl [T90]
  · iexact T90
  isplitl [T91]
  · iexact T91
  isplitl [T92]
  · iexact T92
  isplitl [T93]
  · iexact T93
  isplitl [T94]
  · iexact T94
  isplitl [T95]
  · iexact T95
  isplitl [T96]
  · iexact T96
  isplitl [T97]
  · iexact T97
  isplitl [T98]
  · iexact T98
  isplitl [T99]
  · iexact T99
  isplitl [T100]
  · iexact T100
  isplitl [T101]
  · iexact T101
  isplitl [T102]
  · iexact T102
  isplitl [T103]
  · iexact T103
  isplitl [T104]
  · iexact T104
  isplitl [T105]
  · iexact T105
  isplitl [T106]
  · iexact T106
  isplitl [T107]
  · iexact T107
  isplitl [T108]
  · iexact T108
  isplitl [T109]
  · iexact T109
  isplitl [T110]
  · iexact T110
  isplitl [T111]
  · iexact T111
  isplitl [T112]
  · iexact T112
  isplitl [T113]
  · iexact T113
  isplitl [T114]
  · iexact T114
  isplitl [T115]
  · iexact T115
  isplitl [H_owes]
  · iexact H_owes
  iintro %r H_owes
  obtain ⟨v96, c32_i32_92⟩ := r
  try dsimp only
  -- k0_part5
  icases (bigSepL_pop (fun k : Fin 32 => sigRes m K c k) 24 25 [26, 27, 28, 29, 30, 31]) $$ F_sigRes with ⟨T116, F_sigRes⟩
  icases (bigSepL_pop (fun k : Fin 32 => slotAt c 0 fb (opp k)) 24 25 [26, 27, 28, 29, 30, 31]) $$ F_slot_0 with ⟨T117, F_slot_0⟩
  icases (bigSepL_pop (fun k : Fin 32 => slotAt c 1 fb (opp k)) 24 25 [26, 27, 28, 29, 30, 31]) $$ F_slot_1 with ⟨T118, F_slot_1⟩
  icases (bigSepL_pop (fun k : Fin 32 => outAt c 0 k fo) 24 25 [26, 27, 28, 29, 30, 31]) $$ F_out_0 with ⟨T119, F_out_0⟩
  icases (bigSepL_pop (fun k : Fin 32 => outAt c 1 k fo) 24 25 [26, 27, 28, 29, 30, 31]) $$ F_out_1 with ⟨T120, F_out_1⟩
  icases (bigSepL_pop (fun k : Fin 32 => sigRes m K c k) 25 26 [27, 28, 29, 30, 31]) $$ F_sigRes with ⟨T121, F_sigRes⟩
  icases (bigSepL_pop (fun k : Fin 32 => slotAt c 0 fb (opp k)) 25 26 [27, 28, 29, 30, 31]) $$ F_slot_0 with ⟨T122, F_slot_0⟩
  icases (bigSepL_pop (fun k : Fin 32 => slotAt c 1 fb (opp k)) 25 26 [27, 28, 29, 30, 31]) $$ F_slot_1 with ⟨T123, F_slot_1⟩
  icases (bigSepL_pop (fun k : Fin 32 => outAt c 0 k fo) 25 26 [27, 28, 29, 30, 31]) $$ F_out_0 with ⟨T124, F_out_0⟩
  icases (bigSepL_pop (fun k : Fin 32 => outAt c 1 k fo) 25 26 [27, 28, 29, 30, 31]) $$ F_out_1 with ⟨T125, F_out_1⟩
  icases (bigSepL_pop (fun k : Fin 32 => sigRes m K c k) 26 27 [28, 29, 30, 31]) $$ F_sigRes with ⟨T126, F_sigRes⟩
  icases (bigSepL_pop (fun k : Fin 32 => slotAt c 0 fb (opp k)) 26 27 [28, 29, 30, 31]) $$ F_slot_0 with ⟨T127, F_slot_0⟩
  icases (bigSepL_pop (fun k : Fin 32 => slotAt c 1 fb (opp k)) 26 27 [28, 29, 30, 31]) $$ F_slot_1 with ⟨T128, F_slot_1⟩
  icases (bigSepL_pop (fun k : Fin 32 => outAt c 0 k fo) 26 27 [28, 29, 30, 31]) $$ F_out_0 with ⟨T129, F_out_0⟩
  icases (bigSepL_pop (fun k : Fin 32 => outAt c 1 k fo) 26 27 [28, 29, 30, 31]) $$ F_out_1 with ⟨T130, F_out_1⟩
  icases (bigSepL_pop (fun k : Fin 32 => sigRes m K c k) 27 28 [29, 30, 31]) $$ F_sigRes with ⟨T131, F_sigRes⟩
  icases (bigSepL_pop (fun k : Fin 32 => slotAt c 0 fb (opp k)) 27 28 [29, 30, 31]) $$ F_slot_0 with ⟨T132, F_slot_0⟩
  icases (bigSepL_pop (fun k : Fin 32 => slotAt c 1 fb (opp k)) 27 28 [29, 30, 31]) $$ F_slot_1 with ⟨T133, F_slot_1⟩
  icases (bigSepL_pop (fun k : Fin 32 => outAt c 0 k fo) 27 28 [29, 30, 31]) $$ F_out_0 with ⟨T134, F_out_0⟩
  icases (bigSepL_pop (fun k : Fin 32 => outAt c 1 k fo) 27 28 [29, 30, 31]) $$ F_out_1 with ⟨T135, F_out_1⟩
  icases (bigSepL_pop (fun k : Fin 32 => sigRes m K c k) 28 29 [30, 31]) $$ F_sigRes with ⟨T136, F_sigRes⟩
  icases (bigSepL_pop (fun k : Fin 32 => slotAt c 0 fb (opp k)) 28 29 [30, 31]) $$ F_slot_0 with ⟨T137, F_slot_0⟩
  icases (bigSepL_pop (fun k : Fin 32 => slotAt c 1 fb (opp k)) 28 29 [30, 31]) $$ F_slot_1 with ⟨T138, F_slot_1⟩
  icases (bigSepL_pop (fun k : Fin 32 => outAt c 0 k fo) 28 29 [30, 31]) $$ F_out_0 with ⟨T139, F_out_0⟩
  icases (bigSepL_pop (fun k : Fin 32 => outAt c 1 k fo) 28 29 [30, 31]) $$ F_out_1 with ⟨T140, F_out_1⟩
  icases (bigSepL_pop (fun k : Fin 32 => sigRes m K c k) 29 30 [31]) $$ F_sigRes with ⟨T141, F_sigRes⟩
  icases (bigSepL_pop (fun k : Fin 32 => slotAt c 0 fb (opp k)) 29 30 [31]) $$ F_slot_0 with ⟨T142, F_slot_0⟩
  icases (bigSepL_pop (fun k : Fin 32 => slotAt c 1 fb (opp k)) 29 30 [31]) $$ F_slot_1 with ⟨T143, F_slot_1⟩
  icases (bigSepL_pop (fun k : Fin 32 => outAt c 0 k fo) 29 30 [31]) $$ F_out_0 with ⟨T144, F_out_0⟩
  icases (bigSepL_pop (fun k : Fin 32 => outAt c 1 k fo) 29 30 [31]) $$ F_out_1 with ⟨T145, F_out_1⟩
  rw [owed_step_23 c, owed_step_24 c, owed_step_25 c, owed_step_26 c, owed_step_27 c, owed_step_28 c]
  rw [wp_bind]
  iapply (part5_spec' m K c _ _ _ fo fb (owedAfter c 29) (W))
  isplitl [T116]
  · iexact T116
  isplitl [T117]
  · iexact T117
  isplitl [T118]
  · iexact T118
  isplitl [T119]
  · iexact T119
  isplitl [T120]
  · iexact T120
  isplitl [T121]
  · iexact T121
  isplitl [T122]
  · iexact T122
  isplitl [T123]
  · iexact T123
  isplitl [T124]
  · iexact T124
  isplitl [T125]
  · iexact T125
  isplitl [T126]
  · iexact T126
  isplitl [T127]
  · iexact T127
  isplitl [T128]
  · iexact T128
  isplitl [T129]
  · iexact T129
  isplitl [T130]
  · iexact T130
  isplitl [T131]
  · iexact T131
  isplitl [T132]
  · iexact T132
  isplitl [T133]
  · iexact T133
  isplitl [T134]
  · iexact T134
  isplitl [T135]
  · iexact T135
  isplitl [T136]
  · iexact T136
  isplitl [T137]
  · iexact T137
  isplitl [T138]
  · iexact T138
  isplitl [T139]
  · iexact T139
  isplitl [T140]
  · iexact T140
  isplitl [T141]
  · iexact T141
  isplitl [T142]
  · iexact T142
  isplitl [T143]
  · iexact T143
  isplitl [T144]
  · iexact T144
  isplitl [T145]
  · iexact T145
  isplitl [H_owes]
  · iexact H_owes
  iintro %r H_owes
  obtain ⟨v120, c32_i32_116⟩ := r
  try dsimp only
  -- k0_part6
  icases (bigSepL_pop (fun k : Fin 32 => sigRes m K c k) 30 31 []) $$ F_sigRes with ⟨T146, F_sigRes⟩
  icases (bigSepL_pop (fun k : Fin 32 => slotAt c 0 fb (opp k)) 30 31 []) $$ F_slot_0 with ⟨T147, F_slot_0⟩
  icases (bigSepL_pop (fun k : Fin 32 => slotAt c 1 fb (opp k)) 30 31 []) $$ F_slot_1 with ⟨T148, F_slot_1⟩
  icases (bigSepL_pop (fun k : Fin 32 => outAt c 0 k fo) 30 31 []) $$ F_out_0 with ⟨T149, F_out_0⟩
  icases (bigSepL_pop (fun k : Fin 32 => outAt c 1 k fo) 30 31 []) $$ F_out_1 with ⟨T150, F_out_1⟩
  ihave T151 := (bigSepL_one (fun k : Fin 32 => sigRes m K c k) 31) $$ F_sigRes
  ihave T152 := (bigSepL_one (fun k : Fin 32 => slotAt c 0 fb (opp k)) 31) $$ F_slot_0
  ihave T153 := (bigSepL_one (fun k : Fin 32 => slotAt c 1 fb (opp k)) 31) $$ F_slot_1
  ihave T154 := (bigSepL_one (fun k : Fin 32 => outAt c 0 k fo) 31) $$ F_out_0
  ihave T155 := (bigSepL_one (fun k : Fin 32 => outAt c 1 k fo) 31) $$ F_out_1
  ihave T156 := (bigSepL_one (fun k : Fin 32 => slotAt c 0 fb (opp k)) 0) $$ F_slot0_0
  rw [owed_step_29 c, owed_step_30 c]
  rw [wp_bind]
  iapply (part6_spec' m K c _ _ _ fo fb f3 (owedAfter c 31) (mayWait_bar31 (F := F) c) (W))
  isplitl [T146]
  · iexact T146
  isplitl [T147]
  · iexact T147
  isplitl [T148]
  · iexact T148
  isplitl [T149]
  · iexact T149
  isplitl [T150]
  · iexact T150
  isplitl [T151]
  · iexact T151
  isplitl [T152]
  · iexact T152
  isplitl [T153]
  · iexact T153
  isplitl [T154]
  · iexact T154
  isplitl [T155]
  · iexact T155
  isplitl [F_stgX]
  · iexact F_stgX
  isplitl [F_stgW]
  · iexact F_stgW
  isplitl [F_accWhole]
  · iexact F_accWhole
  isplitl [T156]
  · iexact T156
  isplitl [F_barRes]
  · iexact F_barRes
  isplitl []
  · iexact Hlev
  isplitl [H_owes]
  · iexact H_owes
  iintro %v ⟨F_stgX, F_stgW, P157, P158, P159, P160, P161, P162, P163, P164, P165, P166, P167, P168, P169, P170, P171, P172, P173, P174, P175, P176, P177, P178, P179, P180, P181, P182, P183, P184, P185, P186, P187, P188, F_accRight, P189, F_barGot, H_owes⟩
  try dsimp only
  ihave F_accSrc0_0 := (bigSepL_wrap (fun k : Fin 32 => accSrcAt m c 0 k) 0) $$ P157
  ihave F_accSrc_0 := (bigSepL_wrap (fun k : Fin 32 => accSrcAt m c 0 k) 1) $$ P158
  ihave F_accSrc_0 := (bigSepL_snoc (fun k : Fin 32 => accSrcAt m c 0 k) [1] 2 [1, 2] rfl) $$ [F_accSrc_0 P159]
  · isplitl [F_accSrc_0] <;> iassumption
  ihave F_accSrc_0 := (bigSepL_snoc (fun k : Fin 32 => accSrcAt m c 0 k) [1, 2] 3 [1, 2, 3] rfl) $$ [F_accSrc_0 P160]
  · isplitl [F_accSrc_0] <;> iassumption
  ihave F_accSrc_0 := (bigSepL_snoc (fun k : Fin 32 => accSrcAt m c 0 k) [1, 2, 3] 4 [1, 2, 3, 4] rfl) $$ [F_accSrc_0 P161]
  · isplitl [F_accSrc_0] <;> iassumption
  ihave F_accSrc_0 := (bigSepL_snoc (fun k : Fin 32 => accSrcAt m c 0 k) [1, 2, 3, 4] 5 [1, 2, 3, 4, 5] rfl) $$ [F_accSrc_0 P162]
  · isplitl [F_accSrc_0] <;> iassumption
  ihave F_accSrc_0 := (bigSepL_snoc (fun k : Fin 32 => accSrcAt m c 0 k) [1, 2, 3, 4, 5] 6 [1, 2, 3, 4, 5, 6] rfl) $$ [F_accSrc_0 P163]
  · isplitl [F_accSrc_0] <;> iassumption
  ihave F_accSrc_0 := (bigSepL_snoc (fun k : Fin 32 => accSrcAt m c 0 k) [1, 2, 3, 4, 5, 6] 7 [1, 2, 3, 4, 5, 6, 7] rfl) $$ [F_accSrc_0 P164]
  · isplitl [F_accSrc_0] <;> iassumption
  ihave F_accSrc_0 := (bigSepL_snoc (fun k : Fin 32 => accSrcAt m c 0 k) [1, 2, 3, 4, 5, 6, 7] 8 [1, 2, 3, 4, 5, 6, 7, 8] rfl) $$ [F_accSrc_0 P165]
  · isplitl [F_accSrc_0] <;> iassumption
  ihave F_accSrc_0 := (bigSepL_snoc (fun k : Fin 32 => accSrcAt m c 0 k) [1, 2, 3, 4, 5, 6, 7, 8] 9 [1, 2, 3, 4, 5, 6, 7, 8, 9] rfl) $$ [F_accSrc_0 P166]
  · isplitl [F_accSrc_0] <;> iassumption
  ihave F_accSrc_0 := (bigSepL_snoc (fun k : Fin 32 => accSrcAt m c 0 k) [1, 2, 3, 4, 5, 6, 7, 8, 9] 10 [1, 2, 3, 4, 5, 6, 7, 8, 9, 10] rfl) $$ [F_accSrc_0 P167]
  · isplitl [F_accSrc_0] <;> iassumption
  ihave F_accSrc_0 := (bigSepL_snoc (fun k : Fin 32 => accSrcAt m c 0 k) [1, 2, 3, 4, 5, 6, 7, 8, 9, 10] 11 [1, 2, 3, 4, 5, 6, 7, 8, 9, 10, 11] rfl) $$ [F_accSrc_0 P168]
  · isplitl [F_accSrc_0] <;> iassumption
  ihave F_accSrc_0 := (bigSepL_snoc (fun k : Fin 32 => accSrcAt m c 0 k) [1, 2, 3, 4, 5, 6, 7, 8, 9, 10, 11] 12 [1, 2, 3, 4, 5, 6, 7, 8, 9, 10, 11, 12] rfl) $$ [F_accSrc_0 P169]
  · isplitl [F_accSrc_0] <;> iassumption
  ihave F_accSrc_0 := (bigSepL_snoc (fun k : Fin 32 => accSrcAt m c 0 k) [1, 2, 3, 4, 5, 6, 7, 8, 9, 10, 11, 12] 13 [1, 2, 3, 4, 5, 6, 7, 8, 9, 10, 11, 12, 13] rfl) $$ [F_accSrc_0 P170]
  · isplitl [F_accSrc_0] <;> iassumption
  ihave F_accSrc_0 := (bigSepL_snoc (fun k : Fin 32 => accSrcAt m c 0 k) [1, 2, 3, 4, 5, 6, 7, 8, 9, 10, 11, 12, 13] 14 [1, 2, 3, 4, 5, 6, 7, 8, 9, 10, 11, 12, 13, 14] rfl) $$ [F_accSrc_0 P171]
  · isplitl [F_accSrc_0] <;> iassumption
  ihave F_accSrc_0 := (bigSepL_snoc (fun k : Fin 32 => accSrcAt m c 0 k) [1, 2, 3, 4, 5, 6, 7, 8, 9, 10, 11, 12, 13, 14] 15 [1, 2, 3, 4, 5, 6, 7, 8, 9, 10, 11, 12, 13, 14, 15] rfl) $$ [F_accSrc_0 P172]
  · isplitl [F_accSrc_0] <;> iassumption
  ihave F_accSrc_0 := (bigSepL_snoc (fun k : Fin 32 => accSrcAt m c 0 k) [1, 2, 3, 4, 5, 6, 7, 8, 9, 10, 11, 12, 13, 14, 15] 16 [1, 2, 3, 4, 5, 6, 7, 8, 9, 10, 11, 12, 13, 14, 15, 16] rfl) $$ [F_accSrc_0 P173]
  · isplitl [F_accSrc_0] <;> iassumption
  ihave F_accSrc_0 := (bigSepL_snoc (fun k : Fin 32 => accSrcAt m c 0 k) [1, 2, 3, 4, 5, 6, 7, 8, 9, 10, 11, 12, 13, 14, 15, 16] 17 [1, 2, 3, 4, 5, 6, 7, 8, 9, 10, 11, 12, 13, 14, 15, 16, 17] rfl) $$ [F_accSrc_0 P174]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17] 18 [1, 2, 3, 4, 5, 6, 7, 8, 9, 10, 11, 12, 13, 14, 15, 16, 17, 18] rfl) $$ [F_accSrc_0 P175]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_accSrc_0 P176]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_accSrc_0 P177]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_accSrc_0 P178]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_accSrc_0 P179]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_accSrc_0 P180]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_accSrc_0 P181]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_accSrc_0 P182]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_accSrc_0 P183]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_accSrc_0 P184]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_accSrc_0 P185]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_accSrc_0 P186]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_accSrc_0 P187]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_accSrc_0 P188]
  · isplitl [F_accSrc_0] <;> iassumption
  ihave F_got_rsR_0 := (bigSepL_wrap (fun k : Fin 32 => gotRsR m c 0 k) 0) $$ P189
  -- the barrier's payloads, sorted by kind
  icases (barGot_split (F := F) c) $$ F_barGot with ⟨F_peerSlot_0, F_peerSlot_1, F_peerOut_0, F_peerOut_1⟩
  rw [ks_eq]
  -- k0_part7
  icases (bigSepL_pop (fun k : Fin 32 => copyRes m K rsS rsR c 0 k) 1 2 [3, 4, 5, 6, 7, 8, 9, 10, 11, 12, 13, 14, 15, 16, 17, 18, 19, 20, 21, 22, 23, 24, 25, 26, 27, 28, 29, 30, 31]) $$ F_copyRes_rsS_0 with ⟨T190, F_copyRes_rsS_0⟩
  icases (bigSepL_pop (fun k : Fin 32 => accSrcAt m c 0 k) 1 2 [3, 4, 5, 6, 7, 8, 9, 10, 11, 12, 13, 14, 15, 16, 17, 18, 19, 20, 21, 22, 23, 24, 25, 26, 27, 28, 29, 30, 31]) $$ F_accSrc_0 with ⟨T191, F_accSrc_0⟩
  icases (bigSepL_pop (fun k : Fin 32 => peerSlotAt c 0 k) 1 2 [3, 4, 5, 6, 7, 8, 9, 10, 11, 12, 13, 14, 15, 16, 17, 18, 19, 20, 21, 22, 23, 24, 25, 26, 27, 28, 29, 30, 31]) $$ F_peerSlot_0 with ⟨T192, F_peerSlot_0⟩
  icases (bigSepL_pop (fun k : Fin 32 => copyRes m K rsS rsR c 0 k) 2 3 [4, 5, 6, 7, 8, 9, 10, 11, 12, 13, 14, 15, 16, 17, 18, 19, 20, 21, 22, 23, 24, 25, 26, 27, 28, 29, 30, 31]) $$ F_copyRes_rsS_0 with ⟨T193, F_copyRes_rsS_0⟩
  icases (bigSepL_pop (fun k : Fin 32 => accSrcAt m c 0 k) 2 3 [4, 5, 6, 7, 8, 9, 10, 11, 12, 13, 14, 15, 16, 17, 18, 19, 20, 21, 22, 23, 24, 25, 26, 27, 28, 29, 30, 31]) $$ F_accSrc_0 with ⟨T194, F_accSrc_0⟩
  icases (bigSepL_pop (fun k : Fin 32 => peerSlotAt c 0 k) 2 3 [4, 5, 6, 7, 8, 9, 10, 11, 12, 13, 14, 15, 16, 17, 18, 19, 20, 21, 22, 23, 24, 25, 26, 27, 28, 29, 30, 31]) $$ F_peerSlot_0 with ⟨T195, F_peerSlot_0⟩
  rw [owed_step_31 c, owed_step_32 c]
  rw [wp_bind]
  iapply (part7_spec' m K c _ _ (owedAfter c 33) (insert (SemLoc.reg barS, ()) (W)))
  isplitl [T190]
  · iexact T190
  isplitl [T191]
  · iexact T191
  isplitl [T192]
  · iexact T192
  isplitl [T193]
  · iexact T193
  isplitl [T194]
  · iexact T194
  isplitl [T195]
  · iexact T195
  isplitl [H_owes]
  · iexact H_owes
  iintro %r ⟨P196, P197, H_owes⟩
  obtain ⟨v171, c1_i32_173⟩ := r
  try dsimp only
  ihave F_recvRes_rsS_0 := (bigSepL_wrap (fun k : Fin 32 => recvRes m K rsS c 0 k) 1) $$ P196
  ihave F_recvRes_rsS_0 := (bigSepL_snoc (fun k : Fin 32 => recvRes m K rsS c 0 k) [1] 2 [1, 2] rfl) $$ [F_recvRes_rsS_0 P197]
  · isplitl [F_recvRes_rsS_0] <;> iassumption
  -- k0_part8
  icases (bigSepL_pop (fun k : Fin 32 => copyRes m K rsS rsR c 0 k) 3 4 [5, 6, 7, 8, 9, 10, 11, 12, 13, 14, 15, 16, 17, 18, 19, 20, 21, 22, 23, 24, 25, 26, 27, 28, 29, 30, 31]) $$ F_copyRes_rsS_0 with ⟨T198, F_copyRes_rsS_0⟩
  icases (bigSepL_pop (fun k : Fin 32 => accSrcAt m c 0 k) 3 4 [5, 6, 7, 8, 9, 10, 11, 12, 13, 14, 15, 16, 17, 18, 19, 20, 21, 22, 23, 24, 25, 26, 27, 28, 29, 30, 31]) $$ F_accSrc_0 with ⟨T199, F_accSrc_0⟩
  icases (bigSepL_pop (fun k : Fin 32 => peerSlotAt c 0 k) 3 4 [5, 6, 7, 8, 9, 10, 11, 12, 13, 14, 15, 16, 17, 18, 19, 20, 21, 22, 23, 24, 25, 26, 27, 28, 29, 30, 31]) $$ F_peerSlot_0 with ⟨T200, F_peerSlot_0⟩
  icases (bigSepL_pop (fun k : Fin 32 => copyRes m K rsS rsR c 0 k) 4 5 [6, 7, 8, 9, 10, 11, 12, 13, 14, 15, 16, 17, 18, 19, 20, 21, 22, 23, 24, 25, 26, 27, 28, 29, 30, 31]) $$ F_copyRes_rsS_0 with ⟨T201, F_copyRes_rsS_0⟩
  icases (bigSepL_pop (fun k : Fin 32 => accSrcAt m c 0 k) 4 5 [6, 7, 8, 9, 10, 11, 12, 13, 14, 15, 16, 17, 18, 19, 20, 21, 22, 23, 24, 25, 26, 27, 28, 29, 30, 31]) $$ F_accSrc_0 with ⟨T202, F_accSrc_0⟩
  icases (bigSepL_pop (fun k : Fin 32 => peerSlotAt c 0 k) 4 5 [6, 7, 8, 9, 10, 11, 12, 13, 14, 15, 16, 17, 18, 19, 20, 21, 22, 23, 24, 25, 26, 27, 28, 29, 30, 31]) $$ F_peerSlot_0 with ⟨T203, F_peerSlot_0⟩
  rw [owed_step_33 c, owed_step_34 c]
  rw [wp_bind]
  iapply (part8_spec' m K c _ _ _ (owedAfter c 35) ((insert (SemLoc.reg barS, ()) (W))))
  isplitl [T198]
  · iexact T198
  isplitl [T199]
  · iexact T199
  isplitl [T200]
  · iexact T200
  isplitl [T201]
  · iexact T201
  isplitl [T202]
  · iexact T202
  isplitl [T203]
  · iexact T203
  isplitl [H_owes]
  · iexact H_owes
  iintro %r ⟨P204, P205, H_owes⟩
  try dsimp only
  ihave F_recvRes_rsS_0 := (bigSepL_snoc (fun k : Fin 32 => recvRes m K rsS c 0 k) [1, 2] 3 [1, 2, 3] rfl) $$ [F_recvRes_rsS_0 P204]
  · isplitl [F_recvRes_rsS_0] <;> iassumption
  ihave F_recvRes_rsS_0 := (bigSepL_snoc (fun k : Fin 32 => recvRes m K rsS c 0 k) [1, 2, 3] 4 [1, 2, 3, 4] rfl) $$ [F_recvRes_rsS_0 P205]
  · isplitl [F_recvRes_rsS_0] <;> iassumption
  -- k0_part9
  icases (bigSepL_pop (fun k : Fin 32 => copyRes m K rsS rsR c 0 k) 5 6 [7, 8, 9, 10, 11, 12, 13, 14, 15, 16, 17, 18, 19, 20, 21, 22, 23, 24, 25, 26, 27, 28, 29, 30, 31]) $$ F_copyRes_rsS_0 with ⟨T206, F_copyRes_rsS_0⟩
  icases (bigSepL_pop (fun k : Fin 32 => accSrcAt m c 0 k) 5 6 [7, 8, 9, 10, 11, 12, 13, 14, 15, 16, 17, 18, 19, 20, 21, 22, 23, 24, 25, 26, 27, 28, 29, 30, 31]) $$ F_accSrc_0 with ⟨T207, F_accSrc_0⟩
  icases (bigSepL_pop (fun k : Fin 32 => peerSlotAt c 0 k) 5 6 [7, 8, 9, 10, 11, 12, 13, 14, 15, 16, 17, 18, 19, 20, 21, 22, 23, 24, 25, 26, 27, 28, 29, 30, 31]) $$ F_peerSlot_0 with ⟨T208, F_peerSlot_0⟩
  icases (bigSepL_pop (fun k : Fin 32 => copyRes m K rsS rsR c 0 k) 6 7 [8, 9, 10, 11, 12, 13, 14, 15, 16, 17, 18, 19, 20, 21, 22, 23, 24, 25, 26, 27, 28, 29, 30, 31]) $$ F_copyRes_rsS_0 with ⟨T209, F_copyRes_rsS_0⟩
  icases (bigSepL_pop (fun k : Fin 32 => accSrcAt m c 0 k) 6 7 [8, 9, 10, 11, 12, 13, 14, 15, 16, 17, 18, 19, 20, 21, 22, 23, 24, 25, 26, 27, 28, 29, 30, 31]) $$ F_accSrc_0 with ⟨T210, F_accSrc_0⟩
  icases (bigSepL_pop (fun k : Fin 32 => peerSlotAt c 0 k) 6 7 [8, 9, 10, 11, 12, 13, 14, 15, 16, 17, 18, 19, 20, 21, 22, 23, 24, 25, 26, 27, 28, 29, 30, 31]) $$ F_peerSlot_0 with ⟨T211, F_peerSlot_0⟩
  rw [owed_step_35 c, owed_step_36 c]
  rw [wp_bind]
  iapply (part9_spec' m K c _ (owedAfter c 37) (((insert (SemLoc.reg barS, ()) (W)))))
  isplitl [T206]
  · iexact T206
  isplitl [T207]
  · iexact T207
  isplitl [T208]
  · iexact T208
  isplitl [T209]
  · iexact T209
  isplitl [T210]
  · iexact T210
  isplitl [T211]
  · iexact T211
  isplitl [H_owes]
  · iexact H_owes
  iintro %r ⟨P212, P213, H_owes⟩
  try dsimp only
  ihave F_recvRes_rsS_0 := (bigSepL_snoc (fun k : Fin 32 => recvRes m K rsS c 0 k) [1, 2, 3, 4] 5 [1, 2, 3, 4, 5] rfl) $$ [F_recvRes_rsS_0 P212]
  · isplitl [F_recvRes_rsS_0] <;> iassumption
  ihave F_recvRes_rsS_0 := (bigSepL_snoc (fun k : Fin 32 => recvRes m K rsS c 0 k) [1, 2, 3, 4, 5] 6 [1, 2, 3, 4, 5, 6] rfl) $$ [F_recvRes_rsS_0 P213]
  · isplitl [F_recvRes_rsS_0] <;> iassumption
  -- k0_part10
  icases (bigSepL_pop (fun k : Fin 32 => copyRes m K rsS rsR c 0 k) 7 8 [9, 10, 11, 12, 13, 14, 15, 16, 17, 18, 19, 20, 21, 22, 23, 24, 25, 26, 27, 28, 29, 30, 31]) $$ F_copyRes_rsS_0 with ⟨T214, F_copyRes_rsS_0⟩
  icases (bigSepL_pop (fun k : Fin 32 => accSrcAt m c 0 k) 7 8 [9, 10, 11, 12, 13, 14, 15, 16, 17, 18, 19, 20, 21, 22, 23, 24, 25, 26, 27, 28, 29, 30, 31]) $$ F_accSrc_0 with ⟨T215, F_accSrc_0⟩
  icases (bigSepL_pop (fun k : Fin 32 => peerSlotAt c 0 k) 7 8 [9, 10, 11, 12, 13, 14, 15, 16, 17, 18, 19, 20, 21, 22, 23, 24, 25, 26, 27, 28, 29, 30, 31]) $$ F_peerSlot_0 with ⟨T216, F_peerSlot_0⟩
  icases (bigSepL_pop (fun k : Fin 32 => copyRes m K rsS rsR c 0 k) 8 9 [10, 11, 12, 13, 14, 15, 16, 17, 18, 19, 20, 21, 22, 23, 24, 25, 26, 27, 28, 29, 30, 31]) $$ F_copyRes_rsS_0 with ⟨T217, F_copyRes_rsS_0⟩
  icases (bigSepL_pop (fun k : Fin 32 => accSrcAt m c 0 k) 8 9 [10, 11, 12, 13, 14, 15, 16, 17, 18, 19, 20, 21, 22, 23, 24, 25, 26, 27, 28, 29, 30, 31]) $$ F_accSrc_0 with ⟨T218, F_accSrc_0⟩
  icases (bigSepL_pop (fun k : Fin 32 => peerSlotAt c 0 k) 8 9 [10, 11, 12, 13, 14, 15, 16, 17, 18, 19, 20, 21, 22, 23, 24, 25, 26, 27, 28, 29, 30, 31]) $$ F_peerSlot_0 with ⟨T219, F_peerSlot_0⟩
  icases (bigSepL_pop (fun k : Fin 32 => copyRes m K rsS rsR c 0 k) 9 10 [11, 12, 13, 14, 15, 16, 17, 18, 19, 20, 21, 22, 23, 24, 25, 26, 27, 28, 29, 30, 31]) $$ F_copyRes_rsS_0 with ⟨T220, F_copyRes_rsS_0⟩
  icases (bigSepL_pop (fun k : Fin 32 => accSrcAt m c 0 k) 9 10 [11, 12, 13, 14, 15, 16, 17, 18, 19, 20, 21, 22, 23, 24, 25, 26, 27, 28, 29, 30, 31]) $$ F_accSrc_0 with ⟨T221, F_accSrc_0⟩
  icases (bigSepL_pop (fun k : Fin 32 => peerSlotAt c 0 k) 9 10 [11, 12, 13, 14, 15, 16, 17, 18, 19, 20, 21, 22, 23, 24, 25, 26, 27, 28, 29, 30, 31]) $$ F_peerSlot_0 with ⟨T222, F_peerSlot_0⟩
  rw [owed_step_37 c, owed_step_38 c, owed_step_39 c]
  rw [wp_bind]
  iapply (part10_spec' m K c _ (owedAfter c 40) ((((insert (SemLoc.reg barS, ()) (W))))))
  isplitl [T214]
  · iexact T214
  isplitl [T215]
  · iexact T215
  isplitl [T216]
  · iexact T216
  isplitl [T217]
  · iexact T217
  isplitl [T218]
  · iexact T218
  isplitl [T219]
  · iexact T219
  isplitl [T220]
  · iexact T220
  isplitl [T221]
  · iexact T221
  isplitl [T222]
  · iexact T222
  isplitl [H_owes]
  · iexact H_owes
  iintro %v255 ⟨P223, P224, P225, H_owes⟩
  try dsimp only
  ihave F_recvRes_rsS_0 := (bigSepL_snoc (fun k : Fin 32 => recvRes m K rsS c 0 k) [1, 2, 3, 4, 5, 6] 7 [1, 2, 3, 4, 5, 6, 7] rfl) $$ [F_recvRes_rsS_0 P223]
  · isplitl [F_recvRes_rsS_0] <;> iassumption
  ihave F_recvRes_rsS_0 := (bigSepL_snoc (fun k : Fin 32 => recvRes m K rsS c 0 k) [1, 2, 3, 4, 5, 6, 7] 8 [1, 2, 3, 4, 5, 6, 7, 8] rfl) $$ [F_recvRes_rsS_0 P224]
  · isplitl [F_recvRes_rsS_0] <;> iassumption
  ihave F_recvRes_rsS_0 := (bigSepL_snoc (fun k : Fin 32 => recvRes m K rsS c 0 k) [1, 2, 3, 4, 5, 6, 7, 8] 9 [1, 2, 3, 4, 5, 6, 7, 8, 9] rfl) $$ [F_recvRes_rsS_0 P225]
  · isplitl [F_recvRes_rsS_0] <;> iassumption
  -- k0_part11
  icases (bigSepL_pop (fun k : Fin 32 => copyRes m K rsS rsR c 0 k) 10 11 [12, 13, 14, 15, 16, 17, 18, 19, 20, 21, 22, 23, 24, 25, 26, 27, 28, 29, 30, 31]) $$ F_copyRes_rsS_0 with ⟨T226, F_copyRes_rsS_0⟩
  icases (bigSepL_pop (fun k : Fin 32 => accSrcAt m c 0 k) 10 11 [12, 13, 14, 15, 16, 17, 18, 19, 20, 21, 22, 23, 24, 25, 26, 27, 28, 29, 30, 31]) $$ F_accSrc_0 with ⟨T227, F_accSrc_0⟩
  icases (bigSepL_pop (fun k : Fin 32 => peerSlotAt c 0 k) 10 11 [12, 13, 14, 15, 16, 17, 18, 19, 20, 21, 22, 23, 24, 25, 26, 27, 28, 29, 30, 31]) $$ F_peerSlot_0 with ⟨T228, F_peerSlot_0⟩
  icases (bigSepL_pop (fun k : Fin 32 => copyRes m K rsS rsR c 0 k) 11 12 [13, 14, 15, 16, 17, 18, 19, 20, 21, 22, 23, 24, 25, 26, 27, 28, 29, 30, 31]) $$ F_copyRes_rsS_0 with ⟨T229, F_copyRes_rsS_0⟩
  icases (bigSepL_pop (fun k : Fin 32 => accSrcAt m c 0 k) 11 12 [13, 14, 15, 16, 17, 18, 19, 20, 21, 22, 23, 24, 25, 26, 27, 28, 29, 30, 31]) $$ F_accSrc_0 with ⟨T230, F_accSrc_0⟩
  icases (bigSepL_pop (fun k : Fin 32 => peerSlotAt c 0 k) 11 12 [13, 14, 15, 16, 17, 18, 19, 20, 21, 22, 23, 24, 25, 26, 27, 28, 29, 30, 31]) $$ F_peerSlot_0 with ⟨T231, F_peerSlot_0⟩
  rw [owed_step_40 c, owed_step_41 c]
  rw [wp_bind]
  iapply (part11_spec' m K c _ _ (owedAfter c 42) (((((insert (SemLoc.reg barS, ()) (W)))))))
  isplitl [T226]
  · iexact T226
  isplitl [T227]
  · iexact T227
  isplitl [T228]
  · iexact T228
  isplitl [T229]
  · iexact T229
  isplitl [T230]
  · iexact T230
  isplitl [T231]
  · iexact T231
  isplitl [H_owes]
  · iexact H_owes
  iintro %v279 ⟨P232, P233, H_owes⟩
  try dsimp only
  ihave F_recvRes_rsS_0 := (bigSepL_snoc (fun k : Fin 32 => recvRes m K rsS c 0 k) [1, 2, 3, 4, 5, 6, 7, 8, 9] 10 [1, 2, 3, 4, 5, 6, 7, 8, 9, 10] rfl) $$ [F_recvRes_rsS_0 P232]
  · isplitl [F_recvRes_rsS_0] <;> iassumption
  ihave F_recvRes_rsS_0 := (bigSepL_snoc (fun k : Fin 32 => recvRes m K rsS c 0 k) [1, 2, 3, 4, 5, 6, 7, 8, 9, 10] 11 [1, 2, 3, 4, 5, 6, 7, 8, 9, 10, 11] rfl) $$ [F_recvRes_rsS_0 P233]
  · isplitl [F_recvRes_rsS_0] <;> iassumption
  -- k0_part12
  icases (bigSepL_pop (fun k : Fin 32 => copyRes m K rsS rsR c 0 k) 12 13 [14, 15, 16, 17, 18, 19, 20, 21, 22, 23, 24, 25, 26, 27, 28, 29, 30, 31]) $$ F_copyRes_rsS_0 with ⟨T234, F_copyRes_rsS_0⟩
  icases (bigSepL_pop (fun k : Fin 32 => accSrcAt m c 0 k) 12 13 [14, 15, 16, 17, 18, 19, 20, 21, 22, 23, 24, 25, 26, 27, 28, 29, 30, 31]) $$ F_accSrc_0 with ⟨T235, F_accSrc_0⟩
  icases (bigSepL_pop (fun k : Fin 32 => peerSlotAt c 0 k) 12 13 [14, 15, 16, 17, 18, 19, 20, 21, 22, 23, 24, 25, 26, 27, 28, 29, 30, 31]) $$ F_peerSlot_0 with ⟨T236, F_peerSlot_0⟩
  icases (bigSepL_pop (fun k : Fin 32 => copyRes m K rsS rsR c 0 k) 13 14 [15, 16, 17, 18, 19, 20, 21, 22, 23, 24, 25, 26, 27, 28, 29, 30, 31]) $$ F_copyRes_rsS_0 with ⟨T237, F_copyRes_rsS_0⟩
  icases (bigSepL_pop (fun k : Fin 32 => accSrcAt m c 0 k) 13 14 [15, 16, 17, 18, 19, 20, 21, 22, 23, 24, 25, 26, 27, 28, 29, 30, 31]) $$ F_accSrc_0 with ⟨T238, F_accSrc_0⟩
  icases (bigSepL_pop (fun k : Fin 32 => peerSlotAt c 0 k) 13 14 [15, 16, 17, 18, 19, 20, 21, 22, 23, 24, 25, 26, 27, 28, 29, 30, 31]) $$ F_peerSlot_0 with ⟨T239, F_peerSlot_0⟩
  rw [owed_step_42 c, owed_step_43 c]
  rw [wp_bind]
  iapply (part12_spec' m K c _ _ (owedAfter c 44) ((((((insert (SemLoc.reg barS, ()) (W))))))))
  isplitl [T234]
  · iexact T234
  isplitl [T235]
  · iexact T235
  isplitl [T236]
  · iexact T236
  isplitl [T237]
  · iexact T237
  isplitl [T238]
  · iexact T238
  isplitl [T239]
  · iexact T239
  isplitl [H_owes]
  · iexact H_owes
  iintro %r ⟨P240, P241, H_owes⟩
  try dsimp only
  ihave F_recvRes_rsS_0 := (bigSepL_snoc (fun k : Fin 32 => recvRes m K rsS c 0 k) [1, 2, 3, 4, 5, 6, 7, 8, 9, 10, 11] 12 [1, 2, 3, 4, 5, 6, 7, 8, 9, 10, 11, 12] rfl) $$ [F_recvRes_rsS_0 P240]
  · isplitl [F_recvRes_rsS_0] <;> iassumption
  ihave F_recvRes_rsS_0 := (bigSepL_snoc (fun k : Fin 32 => recvRes m K rsS c 0 k) [1, 2, 3, 4, 5, 6, 7, 8, 9, 10, 11, 12] 13 [1, 2, 3, 4, 5, 6, 7, 8, 9, 10, 11, 12, 13] rfl) $$ [F_recvRes_rsS_0 P241]
  · isplitl [F_recvRes_rsS_0] <;> iassumption
  -- k0_part13
  icases (bigSepL_pop (fun k : Fin 32 => copyRes m K rsS rsR c 0 k) 14 15 [16, 17, 18, 19, 20, 21, 22, 23, 24, 25, 26, 27, 28, 29, 30, 31]) $$ F_copyRes_rsS_0 with ⟨T242, F_copyRes_rsS_0⟩
  icases (bigSepL_pop (fun k : Fin 32 => accSrcAt m c 0 k) 14 15 [16, 17, 18, 19, 20, 21, 22, 23, 24, 25, 26, 27, 28, 29, 30, 31]) $$ F_accSrc_0 with ⟨T243, F_accSrc_0⟩
  icases (bigSepL_pop (fun k : Fin 32 => peerSlotAt c 0 k) 14 15 [16, 17, 18, 19, 20, 21, 22, 23, 24, 25, 26, 27, 28, 29, 30, 31]) $$ F_peerSlot_0 with ⟨T244, F_peerSlot_0⟩
  icases (bigSepL_pop (fun k : Fin 32 => copyRes m K rsS rsR c 0 k) 15 16 [17, 18, 19, 20, 21, 22, 23, 24, 25, 26, 27, 28, 29, 30, 31]) $$ F_copyRes_rsS_0 with ⟨T245, F_copyRes_rsS_0⟩
  icases (bigSepL_pop (fun k : Fin 32 => accSrcAt m c 0 k) 15 16 [17, 18, 19, 20, 21, 22, 23, 24, 25, 26, 27, 28, 29, 30, 31]) $$ F_accSrc_0 with ⟨T246, F_accSrc_0⟩
  icases (bigSepL_pop (fun k : Fin 32 => peerSlotAt c 0 k) 15 16 [17, 18, 19, 20, 21, 22, 23, 24, 25, 26, 27, 28, 29, 30, 31]) $$ F_peerSlot_0 with ⟨T247, F_peerSlot_0⟩
  rw [owed_step_44 c, owed_step_45 c]
  rw [wp_bind]
  iapply (part13_spec' m K c _ (owedAfter c 46) (((((((insert (SemLoc.reg barS, ()) (W)))))))))
  isplitl [T242]
  · iexact T242
  isplitl [T243]
  · iexact T243
  isplitl [T244]
  · iexact T244
  isplitl [T245]
  · iexact T245
  isplitl [T246]
  · iexact T246
  isplitl [T247]
  · iexact T247
  isplitl [H_owes]
  · iexact H_owes
  iintro %r ⟨P248, P249, H_owes⟩
  try dsimp only
  ihave F_recvRes_rsS_0 := (bigSepL_snoc (fun k : Fin 32 => recvRes m K rsS c 0 k) [1, 2, 3, 4, 5, 6, 7, 8, 9, 10, 11, 12, 13] 14 [1, 2, 3, 4, 5, 6, 7, 8, 9, 10, 11, 12, 13, 14] rfl) $$ [F_recvRes_rsS_0 P248]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14] 15 [1, 2, 3, 4, 5, 6, 7, 8, 9, 10, 11, 12, 13, 14, 15] rfl) $$ [F_recvRes_rsS_0 P249]
  · isplitl [F_recvRes_rsS_0] <;> iassumption
  -- k0_part14
  icases (bigSepL_pop (fun k : Fin 32 => copyRes m K rsS rsR c 0 k) 16 17 [18, 19, 20, 21, 22, 23, 24, 25, 26, 27, 28, 29, 30, 31]) $$ F_copyRes_rsS_0 with ⟨T250, F_copyRes_rsS_0⟩
  icases (bigSepL_pop (fun k : Fin 32 => accSrcAt m c 0 k) 16 17 [18, 19, 20, 21, 22, 23, 24, 25, 26, 27, 28, 29, 30, 31]) $$ F_accSrc_0 with ⟨T251, F_accSrc_0⟩
  icases (bigSepL_pop (fun k : Fin 32 => peerSlotAt c 0 k) 16 17 [18, 19, 20, 21, 22, 23, 24, 25, 26, 27, 28, 29, 30, 31]) $$ F_peerSlot_0 with ⟨T252, F_peerSlot_0⟩
  icases (bigSepL_pop (fun k : Fin 32 => copyRes m K rsS rsR c 0 k) 17 18 [19, 20, 21, 22, 23, 24, 25, 26, 27, 28, 29, 30, 31]) $$ F_copyRes_rsS_0 with ⟨T253, F_copyRes_rsS_0⟩
  icases (bigSepL_pop (fun k : Fin 32 => accSrcAt m c 0 k) 17 18 [19, 20, 21, 22, 23, 24, 25, 26, 27, 28, 29, 30, 31]) $$ F_accSrc_0 with ⟨T254, F_accSrc_0⟩
  icases (bigSepL_pop (fun k : Fin 32 => peerSlotAt c 0 k) 17 18 [19, 20, 21, 22, 23, 24, 25, 26, 27, 28, 29, 30, 31]) $$ F_peerSlot_0 with ⟨T255, F_peerSlot_0⟩
  icases (bigSepL_pop (fun k : Fin 32 => copyRes m K rsS rsR c 0 k) 18 19 [20, 21, 22, 23, 24, 25, 26, 27, 28, 29, 30, 31]) $$ F_copyRes_rsS_0 with ⟨T256, F_copyRes_rsS_0⟩
  icases (bigSepL_pop (fun k : Fin 32 => accSrcAt m c 0 k) 18 19 [20, 21, 22, 23, 24, 25, 26, 27, 28, 29, 30, 31]) $$ F_accSrc_0 with ⟨T257, F_accSrc_0⟩
  icases (bigSepL_pop (fun k : Fin 32 => peerSlotAt c 0 k) 18 19 [20, 21, 22, 23, 24, 25, 26, 27, 28, 29, 30, 31]) $$ F_peerSlot_0 with ⟨T258, F_peerSlot_0⟩
  rw [owed_step_46 c, owed_step_47 c, owed_step_48 c]
  rw [wp_bind]
  iapply (part14_spec' m K c _ (owedAfter c 49) ((((((((insert (SemLoc.reg barS, ()) (W))))))))))
  isplitl [T250]
  · iexact T250
  isplitl [T251]
  · iexact T251
  isplitl [T252]
  · iexact T252
  isplitl [T253]
  · iexact T253
  isplitl [T254]
  · iexact T254
  isplitl [T255]
  · iexact T255
  isplitl [T256]
  · iexact T256
  isplitl [T257]
  · iexact T257
  isplitl [T258]
  · iexact T258
  isplitl [H_owes]
  · iexact H_owes
  iintro %c19_i32_388 ⟨P259, P260, P261, H_owes⟩
  try dsimp only
  ihave F_recvRes_rsS_0 := (bigSepL_snoc (fun k : Fin 32 => recvRes m K rsS c 0 k) [1, 2, 3, 4, 5, 6, 7, 8, 9, 10, 11, 12, 13, 14, 15] 16 [1, 2, 3, 4, 5, 6, 7, 8, 9, 10, 11, 12, 13, 14, 15, 16] rfl) $$ [F_recvRes_rsS_0 P259]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16] 17 [1, 2, 3, 4, 5, 6, 7, 8, 9, 10, 11, 12, 13, 14, 15, 16, 17] rfl) $$ [F_recvRes_rsS_0 P260]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16, 17] 18 [1, 2, 3, 4, 5, 6, 7, 8, 9, 10, 11, 12, 13, 14, 15, 16, 17, 18] rfl) $$ [F_recvRes_rsS_0 P261]
  · isplitl [F_recvRes_rsS_0] <;> iassumption
  -- k0_part15
  icases (bigSepL_pop (fun k : Fin 32 => copyRes m K rsS rsR c 0 k) 19 20 [21, 22, 23, 24, 25, 26, 27, 28, 29, 30, 31]) $$ F_copyRes_rsS_0 with ⟨T262, F_copyRes_rsS_0⟩
  icases (bigSepL_pop (fun k : Fin 32 => accSrcAt m c 0 k) 19 20 [21, 22, 23, 24, 25, 26, 27, 28, 29, 30, 31]) $$ F_accSrc_0 with ⟨T263, F_accSrc_0⟩
  icases (bigSepL_pop (fun k : Fin 32 => peerSlotAt c 0 k) 19 20 [21, 22, 23, 24, 25, 26, 27, 28, 29, 30, 31]) $$ F_peerSlot_0 with ⟨T264, F_peerSlot_0⟩
  icases (bigSepL_pop (fun k : Fin 32 => copyRes m K rsS rsR c 0 k) 20 21 [22, 23, 24, 25, 26, 27, 28, 29, 30, 31]) $$ F_copyRes_rsS_0 with ⟨T265, F_copyRes_rsS_0⟩
  icases (bigSepL_pop (fun k : Fin 32 => accSrcAt m c 0 k) 20 21 [22, 23, 24, 25, 26, 27, 28, 29, 30, 31]) $$ F_accSrc_0 with ⟨T266, F_accSrc_0⟩
  icases (bigSepL_pop (fun k : Fin 32 => peerSlotAt c 0 k) 20 21 [22, 23, 24, 25, 26, 27, 28, 29, 30, 31]) $$ F_peerSlot_0 with ⟨T267, F_peerSlot_0⟩
  rw [owed_step_49 c, owed_step_50 c]
  rw [wp_bind]
  iapply (part15_spec' m K c _ _ (owedAfter c 51) (((((((((insert (SemLoc.reg barS, ()) (W)))))))))))
  isplitl [T262]
  · iexact T262
  isplitl [T263]
  · iexact T263
  isplitl [T264]
  · iexact T264
  isplitl [T265]
  · iexact T265
  isplitl [T266]
  · iexact T266
  isplitl [T267]
  · iexact T267
  isplitl [H_owes]
  · iexact H_owes
  iintro %v387 ⟨P268, P269, H_owes⟩
  try dsimp only
  ihave F_recvRes_rsS_0 := (bigSepL_snoc (fun k : Fin 32 => recvRes m K rsS c 0 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_recvRes_rsS_0 P268]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_recvRes_rsS_0 P269]
  · isplitl [F_recvRes_rsS_0] <;> iassumption
  -- k0_part16
  icases (bigSepL_pop (fun k : Fin 32 => copyRes m K rsS rsR c 0 k) 21 22 [23, 24, 25, 26, 27, 28, 29, 30, 31]) $$ F_copyRes_rsS_0 with ⟨T270, F_copyRes_rsS_0⟩
  icases (bigSepL_pop (fun k : Fin 32 => accSrcAt m c 0 k) 21 22 [23, 24, 25, 26, 27, 28, 29, 30, 31]) $$ F_accSrc_0 with ⟨T271, F_accSrc_0⟩
  icases (bigSepL_pop (fun k : Fin 32 => peerSlotAt c 0 k) 21 22 [23, 24, 25, 26, 27, 28, 29, 30, 31]) $$ F_peerSlot_0 with ⟨T272, F_peerSlot_0⟩
  icases (bigSepL_pop (fun k : Fin 32 => copyRes m K rsS rsR c 0 k) 22 23 [24, 25, 26, 27, 28, 29, 30, 31]) $$ F_copyRes_rsS_0 with ⟨T273, F_copyRes_rsS_0⟩
  icases (bigSepL_pop (fun k : Fin 32 => accSrcAt m c 0 k) 22 23 [24, 25, 26, 27, 28, 29, 30, 31]) $$ F_accSrc_0 with ⟨T274, F_accSrc_0⟩
  icases (bigSepL_pop (fun k : Fin 32 => peerSlotAt c 0 k) 22 23 [24, 25, 26, 27, 28, 29, 30, 31]) $$ F_peerSlot_0 with ⟨T275, F_peerSlot_0⟩
  rw [owed_step_51 c, owed_step_52 c]
  rw [wp_bind]
  iapply (part16_spec' m K c _ _ (owedAfter c 53) ((((((((((insert (SemLoc.reg barS, ()) (W))))))))))))
  isplitl [T270]
  · iexact T270
  isplitl [T271]
  · iexact T271
  isplitl [T272]
  · iexact T272
  isplitl [T273]
  · iexact T273
  isplitl [T274]
  · iexact T274
  isplitl [T275]
  · iexact T275
  isplitl [H_owes]
  · iexact H_owes
  iintro %r ⟨P276, P277, H_owes⟩
  obtain ⟨v411, c1_i32_453⟩ := r
  try dsimp only
  ihave F_recvRes_rsS_0 := (bigSepL_snoc (fun k : Fin 32 => recvRes m K rsS c 0 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_recvRes_rsS_0 P276]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_recvRes_rsS_0 P277]
  · isplitl [F_recvRes_rsS_0] <;> iassumption
  -- k0_part17
  icases (bigSepL_pop (fun k : Fin 32 => copyRes m K rsS rsR c 0 k) 23 24 [25, 26, 27, 28, 29, 30, 31]) $$ F_copyRes_rsS_0 with ⟨T278, F_copyRes_rsS_0⟩
  icases (bigSepL_pop (fun k : Fin 32 => accSrcAt m c 0 k) 23 24 [25, 26, 27, 28, 29, 30, 31]) $$ F_accSrc_0 with ⟨T279, F_accSrc_0⟩
  icases (bigSepL_pop (fun k : Fin 32 => peerSlotAt c 0 k) 23 24 [25, 26, 27, 28, 29, 30, 31]) $$ F_peerSlot_0 with ⟨T280, F_peerSlot_0⟩
  icases (bigSepL_pop (fun k : Fin 32 => copyRes m K rsS rsR c 0 k) 24 25 [26, 27, 28, 29, 30, 31]) $$ F_copyRes_rsS_0 with ⟨T281, F_copyRes_rsS_0⟩
  icases (bigSepL_pop (fun k : Fin 32 => accSrcAt m c 0 k) 24 25 [26, 27, 28, 29, 30, 31]) $$ F_accSrc_0 with ⟨T282, F_accSrc_0⟩
  icases (bigSepL_pop (fun k : Fin 32 => peerSlotAt c 0 k) 24 25 [26, 27, 28, 29, 30, 31]) $$ F_peerSlot_0 with ⟨T283, F_peerSlot_0⟩
  rw [owed_step_53 c, owed_step_54 c]
  rw [wp_bind]
  iapply (part17_spec' m K c _ _ _ (owedAfter c 55) (((((((((((insert (SemLoc.reg barS, ()) (W)))))))))))))
  isplitl [T278]
  · iexact T278
  isplitl [T279]
  · iexact T279
  isplitl [T280]
  · iexact T280
  isplitl [T281]
  · iexact T281
  isplitl [T282]
  · iexact T282
  isplitl [T283]
  · iexact T283
  isplitl [H_owes]
  · iexact H_owes
  iintro %r ⟨P284, P285, H_owes⟩
  try dsimp only
  ihave F_recvRes_rsS_0 := (bigSepL_snoc (fun k : Fin 32 => recvRes m K rsS c 0 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_recvRes_rsS_0 P284]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_recvRes_rsS_0 P285]
  · isplitl [F_recvRes_rsS_0] <;> iassumption
  -- k0_part18
  icases (bigSepL_pop (fun k : Fin 32 => copyRes m K rsS rsR c 0 k) 25 26 [27, 28, 29, 30, 31]) $$ F_copyRes_rsS_0 with ⟨T286, F_copyRes_rsS_0⟩
  icases (bigSepL_pop (fun k : Fin 32 => accSrcAt m c 0 k) 25 26 [27, 28, 29, 30, 31]) $$ F_accSrc_0 with ⟨T287, F_accSrc_0⟩
  icases (bigSepL_pop (fun k : Fin 32 => peerSlotAt c 0 k) 25 26 [27, 28, 29, 30, 31]) $$ F_peerSlot_0 with ⟨T288, F_peerSlot_0⟩
  icases (bigSepL_pop (fun k : Fin 32 => copyRes m K rsS rsR c 0 k) 26 27 [28, 29, 30, 31]) $$ F_copyRes_rsS_0 with ⟨T289, F_copyRes_rsS_0⟩
  icases (bigSepL_pop (fun k : Fin 32 => accSrcAt m c 0 k) 26 27 [28, 29, 30, 31]) $$ F_accSrc_0 with ⟨T290, F_accSrc_0⟩
  icases (bigSepL_pop (fun k : Fin 32 => peerSlotAt c 0 k) 26 27 [28, 29, 30, 31]) $$ F_peerSlot_0 with ⟨T291, F_peerSlot_0⟩
  rw [owed_step_55 c, owed_step_56 c]
  rw [wp_bind]
  iapply (part18_spec' m K c _ (owedAfter c 57) ((((((((((((insert (SemLoc.reg barS, ()) (W))))))))))))))
  isplitl [T286]
  · iexact T286
  isplitl [T287]
  · iexact T287
  isplitl [T288]
  · iexact T288
  isplitl [T289]
  · iexact T289
  isplitl [T290]
  · iexact T290
  isplitl [T291]
  · iexact T291
  isplitl [H_owes]
  · iexact H_owes
  iintro %r ⟨P292, P293, H_owes⟩
  try dsimp only
  ihave F_recvRes_rsS_0 := (bigSepL_snoc (fun k : Fin 32 => recvRes m K rsS c 0 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_recvRes_rsS_0 P292]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_recvRes_rsS_0 P293]
  · isplitl [F_recvRes_rsS_0] <;> iassumption
  -- k0_part19
  icases (bigSepL_pop (fun k : Fin 32 => copyRes m K rsS rsR c 0 k) 27 28 [29, 30, 31]) $$ F_copyRes_rsS_0 with ⟨T294, F_copyRes_rsS_0⟩
  icases (bigSepL_pop (fun k : Fin 32 => accSrcAt m c 0 k) 27 28 [29, 30, 31]) $$ F_accSrc_0 with ⟨T295, F_accSrc_0⟩
  icases (bigSepL_pop (fun k : Fin 32 => peerSlotAt c 0 k) 27 28 [29, 30, 31]) $$ F_peerSlot_0 with ⟨T296, F_peerSlot_0⟩
  icases (bigSepL_pop (fun k : Fin 32 => copyRes m K rsS rsR c 0 k) 28 29 [30, 31]) $$ F_copyRes_rsS_0 with ⟨T297, F_copyRes_rsS_0⟩
  icases (bigSepL_pop (fun k : Fin 32 => accSrcAt m c 0 k) 28 29 [30, 31]) $$ F_accSrc_0 with ⟨T298, F_accSrc_0⟩
  icases (bigSepL_pop (fun k : Fin 32 => peerSlotAt c 0 k) 28 29 [30, 31]) $$ F_peerSlot_0 with ⟨T299, F_peerSlot_0⟩
  icases (bigSepL_pop (fun k : Fin 32 => copyRes m K rsS rsR c 0 k) 29 30 [31]) $$ F_copyRes_rsS_0 with ⟨T300, F_copyRes_rsS_0⟩
  icases (bigSepL_pop (fun k : Fin 32 => accSrcAt m c 0 k) 29 30 [31]) $$ F_accSrc_0 with ⟨T301, F_accSrc_0⟩
  icases (bigSepL_pop (fun k : Fin 32 => peerSlotAt c 0 k) 29 30 [31]) $$ F_peerSlot_0 with ⟨T302, F_peerSlot_0⟩
  rw [owed_step_57 c, owed_step_58 c, owed_step_59 c]
  rw [wp_bind]
  iapply (part19_spec' m K c _ (owedAfter c 60) (((((((((((((insert (SemLoc.reg barS, ()) (W)))))))))))))))
  isplitl [T294]
  · iexact T294
  isplitl [T295]
  · iexact T295
  isplitl [T296]
  · iexact T296
  isplitl [T297]
  · iexact T297
  isplitl [T298]
  · iexact T298
  isplitl [T299]
  · iexact T299
  isplitl [T300]
  · iexact T300
  isplitl [T301]
  · iexact T301
  isplitl [T302]
  · iexact T302
  isplitl [H_owes]
  · iexact H_owes
  iintro %v495 ⟨P303, P304, P305, H_owes⟩
  try dsimp only
  ihave F_recvRes_rsS_0 := (bigSepL_snoc (fun k : Fin 32 => recvRes m K rsS c 0 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_recvRes_rsS_0 P303]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_recvRes_rsS_0 P304]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_recvRes_rsS_0 P305]
  · isplitl [F_recvRes_rsS_0] <;> iassumption
  -- k0_part20
  icases (bigSepL_pop (fun k : Fin 32 => copyRes m K rsS rsR c 0 k) 30 31 []) $$ F_copyRes_rsS_0 with ⟨T306, F_copyRes_rsS_0⟩
  icases (bigSepL_pop (fun k : Fin 32 => accSrcAt m c 0 k) 30 31 []) $$ F_accSrc_0 with ⟨T307, F_accSrc_0⟩
  icases (bigSepL_pop (fun k : Fin 32 => peerSlotAt c 0 k) 30 31 []) $$ F_peerSlot_0 with ⟨T308, F_peerSlot_0⟩
  ihave T309 := (bigSepL_one (fun k : Fin 32 => copyRes m K rsS rsR c 0 k) 31) $$ F_copyRes_rsS_0
  ihave T310 := (bigSepL_one (fun k : Fin 32 => accSrcAt m c 0 k) 31) $$ F_accSrc_0
  ihave T311 := (bigSepL_one (fun k : Fin 32 => peerSlotAt c 0 k) 31) $$ F_peerSlot_0
  rw [owed_step_60 c, owed_step_61 c]
  rw [wp_bind]
  iapply (part20_spec' m K c _ _ f3 (owedAfter c 62) ((((((((((((((insert (SemLoc.reg barS, ()) (W))))))))))))))))
  isplitl [T306]
  · iexact T306
  isplitl [T307]
  · iexact T307
  isplitl [T308]
  · iexact T308
  isplitl [T309]
  · iexact T309
  isplitl [T310]
  · iexact T310
  isplitl [T311]
  · iexact T311
  isplitl [F_accRight]
  · iexact F_accRight
  isplitl [H_owes]
  · iexact H_owes
  iintro %r ⟨P312, P313, P314, P315, P316, P317, P318, P319, P320, P321, P322, P323, P324, P325, P326, P327, P328, P329, P330, P331, P332, P333, P334, P335, P336, P337, P338, P339, P340, P341, P342, P343, P344, P345, H_owes⟩
  try dsimp only
  ihave F_recvRes_rsS_0 := (bigSepL_snoc (fun k : Fin 32 => recvRes m K rsS c 0 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_recvRes_rsS_0 P312]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_recvRes_rsS_0 P313]
  · isplitl [F_recvRes_rsS_0] <;> iassumption
  ihave F_accSrc0_1 := (bigSepL_wrap (fun k : Fin 32 => accSrcAt m c 1 k) 0) $$ P314
  ihave F_accSrc_1 := (bigSepL_wrap (fun k : Fin 32 => accSrcAt m c 1 k) 1) $$ P315
  ihave F_accSrc_1 := (bigSepL_snoc (fun k : Fin 32 => accSrcAt m c 1 k) [1] 2 [1, 2] rfl) $$ [F_accSrc_1 P316]
  · isplitl [F_accSrc_1] <;> iassumption
  ihave F_accSrc_1 := (bigSepL_snoc (fun k : Fin 32 => accSrcAt m c 1 k) [1, 2] 3 [1, 2, 3] rfl) $$ [F_accSrc_1 P317]
  · isplitl [F_accSrc_1] <;> iassumption
  ihave F_accSrc_1 := (bigSepL_snoc (fun k : Fin 32 => accSrcAt m c 1 k) [1, 2, 3] 4 [1, 2, 3, 4] rfl) $$ [F_accSrc_1 P318]
  · isplitl [F_accSrc_1] <;> iassumption
  ihave F_accSrc_1 := (bigSepL_snoc (fun k : Fin 32 => accSrcAt m c 1 k) [1, 2, 3, 4] 5 [1, 2, 3, 4, 5] rfl) $$ [F_accSrc_1 P319]
  · isplitl [F_accSrc_1] <;> iassumption
  ihave F_accSrc_1 := (bigSepL_snoc (fun k : Fin 32 => accSrcAt m c 1 k) [1, 2, 3, 4, 5] 6 [1, 2, 3, 4, 5, 6] rfl) $$ [F_accSrc_1 P320]
  · isplitl [F_accSrc_1] <;> iassumption
  ihave F_accSrc_1 := (bigSepL_snoc (fun k : Fin 32 => accSrcAt m c 1 k) [1, 2, 3, 4, 5, 6] 7 [1, 2, 3, 4, 5, 6, 7] rfl) $$ [F_accSrc_1 P321]
  · isplitl [F_accSrc_1] <;> iassumption
  ihave F_accSrc_1 := (bigSepL_snoc (fun k : Fin 32 => accSrcAt m c 1 k) [1, 2, 3, 4, 5, 6, 7] 8 [1, 2, 3, 4, 5, 6, 7, 8] rfl) $$ [F_accSrc_1 P322]
  · isplitl [F_accSrc_1] <;> iassumption
  ihave F_accSrc_1 := (bigSepL_snoc (fun k : Fin 32 => accSrcAt m c 1 k) [1, 2, 3, 4, 5, 6, 7, 8] 9 [1, 2, 3, 4, 5, 6, 7, 8, 9] rfl) $$ [F_accSrc_1 P323]
  · isplitl [F_accSrc_1] <;> iassumption
  ihave F_accSrc_1 := (bigSepL_snoc (fun k : Fin 32 => accSrcAt m c 1 k) [1, 2, 3, 4, 5, 6, 7, 8, 9] 10 [1, 2, 3, 4, 5, 6, 7, 8, 9, 10] rfl) $$ [F_accSrc_1 P324]
  · isplitl [F_accSrc_1] <;> iassumption
  ihave F_accSrc_1 := (bigSepL_snoc (fun k : Fin 32 => accSrcAt m c 1 k) [1, 2, 3, 4, 5, 6, 7, 8, 9, 10] 11 [1, 2, 3, 4, 5, 6, 7, 8, 9, 10, 11] rfl) $$ [F_accSrc_1 P325]
  · isplitl [F_accSrc_1] <;> iassumption
  ihave F_accSrc_1 := (bigSepL_snoc (fun k : Fin 32 => accSrcAt m c 1 k) [1, 2, 3, 4, 5, 6, 7, 8, 9, 10, 11] 12 [1, 2, 3, 4, 5, 6, 7, 8, 9, 10, 11, 12] rfl) $$ [F_accSrc_1 P326]
  · isplitl [F_accSrc_1] <;> iassumption
  ihave F_accSrc_1 := (bigSepL_snoc (fun k : Fin 32 => accSrcAt m c 1 k) [1, 2, 3, 4, 5, 6, 7, 8, 9, 10, 11, 12] 13 [1, 2, 3, 4, 5, 6, 7, 8, 9, 10, 11, 12, 13] rfl) $$ [F_accSrc_1 P327]
  · isplitl [F_accSrc_1] <;> iassumption
  ihave F_accSrc_1 := (bigSepL_snoc (fun k : Fin 32 => accSrcAt m c 1 k) [1, 2, 3, 4, 5, 6, 7, 8, 9, 10, 11, 12, 13] 14 [1, 2, 3, 4, 5, 6, 7, 8, 9, 10, 11, 12, 13, 14] rfl) $$ [F_accSrc_1 P328]
  · isplitl [F_accSrc_1] <;> iassumption
  ihave F_accSrc_1 := (bigSepL_snoc (fun k : Fin 32 => accSrcAt m c 1 k) [1, 2, 3, 4, 5, 6, 7, 8, 9, 10, 11, 12, 13, 14] 15 [1, 2, 3, 4, 5, 6, 7, 8, 9, 10, 11, 12, 13, 14, 15] rfl) $$ [F_accSrc_1 P329]
  · isplitl [F_accSrc_1] <;> iassumption
  ihave F_accSrc_1 := (bigSepL_snoc (fun k : Fin 32 => accSrcAt m c 1 k) [1, 2, 3, 4, 5, 6, 7, 8, 9, 10, 11, 12, 13, 14, 15] 16 [1, 2, 3, 4, 5, 6, 7, 8, 9, 10, 11, 12, 13, 14, 15, 16] rfl) $$ [F_accSrc_1 P330]
  · isplitl [F_accSrc_1] <;> iassumption
  ihave F_accSrc_1 := (bigSepL_snoc (fun k : Fin 32 => accSrcAt m c 1 k) [1, 2, 3, 4, 5, 6, 7, 8, 9, 10, 11, 12, 13, 14, 15, 16] 17 [1, 2, 3, 4, 5, 6, 7, 8, 9, 10, 11, 12, 13, 14, 15, 16, 17] rfl) $$ [F_accSrc_1 P331]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17] 18 [1, 2, 3, 4, 5, 6, 7, 8, 9, 10, 11, 12, 13, 14, 15, 16, 17, 18] rfl) $$ [F_accSrc_1 P332]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_accSrc_1 P333]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_accSrc_1 P334]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_accSrc_1 P335]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_accSrc_1 P336]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_accSrc_1 P337]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_accSrc_1 P338]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_accSrc_1 P339]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_accSrc_1 P340]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_accSrc_1 P341]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_accSrc_1 P342]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_accSrc_1 P343]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_accSrc_1 P344]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_accSrc_1 P345]
  · isplitl [F_accSrc_1] <;> iassumption
  -- k0_part21
  ihave T346 := (bigSepL_one (fun k : Fin 32 => accSrcAt m c 1 k) 0) $$ F_accSrc0_1
  ihave T347 := (bigSepL_one (fun k : Fin 32 => slotAt c 1 fb (opp k)) 0) $$ F_slot0_1
  icases (bigSepL_pop (fun k : Fin 32 => copyRes m K rsS rsR c 1 k) 1 2 [3, 4, 5, 6, 7, 8, 9, 10, 11, 12, 13, 14, 15, 16, 17, 18, 19, 20, 21, 22, 23, 24, 25, 26, 27, 28, 29, 30, 31]) $$ F_copyRes_rsS_1 with ⟨T348, F_copyRes_rsS_1⟩
  icases (bigSepL_pop (fun k : Fin 32 => accSrcAt m c 1 k) 1 2 [3, 4, 5, 6, 7, 8, 9, 10, 11, 12, 13, 14, 15, 16, 17, 18, 19, 20, 21, 22, 23, 24, 25, 26, 27, 28, 29, 30, 31]) $$ F_accSrc_1 with ⟨T349, F_accSrc_1⟩
  icases (bigSepL_pop (fun k : Fin 32 => peerSlotAt c 1 k) 1 2 [3, 4, 5, 6, 7, 8, 9, 10, 11, 12, 13, 14, 15, 16, 17, 18, 19, 20, 21, 22, 23, 24, 25, 26, 27, 28, 29, 30, 31]) $$ F_peerSlot_1 with ⟨T350, F_peerSlot_1⟩
  rw [owed_step_62 c]
  rw [wp_bind]
  iapply (part21_spec' m K c _ fb (owedAfter c 63) (((((((((((((((insert (SemLoc.reg barS, ()) (W)))))))))))))))))
  isplitl [T346]
  · iexact T346
  isplitl [T347]
  · iexact T347
  isplitl [T348]
  · iexact T348
  isplitl [T349]
  · iexact T349
  isplitl [T350]
  · iexact T350
  isplitl [H_owes]
  · iexact H_owes
  iintro %r ⟨P351, P352, P353, H_owes⟩
  try dsimp only
  ihave F_accSrc0_1 := (bigSepL_wrap (fun k : Fin 32 => accSrcAt m c 1 k) 0) $$ P351
  ihave F_got_rsR_1 := (bigSepL_wrap (fun k : Fin 32 => gotRsR m c 1 k) 0) $$ P352
  ihave F_recvRes_rsS_1 := (bigSepL_wrap (fun k : Fin 32 => recvRes m K rsS c 1 k) 1) $$ P353
  -- k0_part22
  icases (bigSepL_pop (fun k : Fin 32 => copyRes m K rsS rsR c 1 k) 2 3 [4, 5, 6, 7, 8, 9, 10, 11, 12, 13, 14, 15, 16, 17, 18, 19, 20, 21, 22, 23, 24, 25, 26, 27, 28, 29, 30, 31]) $$ F_copyRes_rsS_1 with ⟨T354, F_copyRes_rsS_1⟩
  icases (bigSepL_pop (fun k : Fin 32 => accSrcAt m c 1 k) 2 3 [4, 5, 6, 7, 8, 9, 10, 11, 12, 13, 14, 15, 16, 17, 18, 19, 20, 21, 22, 23, 24, 25, 26, 27, 28, 29, 30, 31]) $$ F_accSrc_1 with ⟨T355, F_accSrc_1⟩
  icases (bigSepL_pop (fun k : Fin 32 => peerSlotAt c 1 k) 2 3 [4, 5, 6, 7, 8, 9, 10, 11, 12, 13, 14, 15, 16, 17, 18, 19, 20, 21, 22, 23, 24, 25, 26, 27, 28, 29, 30, 31]) $$ F_peerSlot_1 with ⟨T356, F_peerSlot_1⟩
  icases (bigSepL_pop (fun k : Fin 32 => copyRes m K rsS rsR c 1 k) 3 4 [5, 6, 7, 8, 9, 10, 11, 12, 13, 14, 15, 16, 17, 18, 19, 20, 21, 22, 23, 24, 25, 26, 27, 28, 29, 30, 31]) $$ F_copyRes_rsS_1 with ⟨T357, F_copyRes_rsS_1⟩
  icases (bigSepL_pop (fun k : Fin 32 => accSrcAt m c 1 k) 3 4 [5, 6, 7, 8, 9, 10, 11, 12, 13, 14, 15, 16, 17, 18, 19, 20, 21, 22, 23, 24, 25, 26, 27, 28, 29, 30, 31]) $$ F_accSrc_1 with ⟨T358, F_accSrc_1⟩
  icases (bigSepL_pop (fun k : Fin 32 => peerSlotAt c 1 k) 3 4 [5, 6, 7, 8, 9, 10, 11, 12, 13, 14, 15, 16, 17, 18, 19, 20, 21, 22, 23, 24, 25, 26, 27, 28, 29, 30, 31]) $$ F_peerSlot_1 with ⟨T359, F_peerSlot_1⟩
  rw [owed_step_63 c, owed_step_64 c]
  rw [wp_bind]
  iapply (part22_spec' m K c _ (owedAfter c 65) ((((((((((((((((insert (SemLoc.reg barS, ()) (W))))))))))))))))))
  isplitl [T354]
  · iexact T354
  isplitl [T355]
  · iexact T355
  isplitl [T356]
  · iexact T356
  isplitl [T357]
  · iexact T357
  isplitl [T358]
  · iexact T358
  isplitl [T359]
  · iexact T359
  isplitl [H_owes]
  · iexact H_owes
  iintro %r ⟨P360, P361, H_owes⟩
  try dsimp only
  ihave F_recvRes_rsS_1 := (bigSepL_snoc (fun k : Fin 32 => recvRes m K rsS c 1 k) [1] 2 [1, 2] rfl) $$ [F_recvRes_rsS_1 P360]
  · isplitl [F_recvRes_rsS_1] <;> iassumption
  ihave F_recvRes_rsS_1 := (bigSepL_snoc (fun k : Fin 32 => recvRes m K rsS c 1 k) [1, 2] 3 [1, 2, 3] rfl) $$ [F_recvRes_rsS_1 P361]
  · isplitl [F_recvRes_rsS_1] <;> iassumption
  -- k0_part23
  icases (bigSepL_pop (fun k : Fin 32 => copyRes m K rsS rsR c 1 k) 4 5 [6, 7, 8, 9, 10, 11, 12, 13, 14, 15, 16, 17, 18, 19, 20, 21, 22, 23, 24, 25, 26, 27, 28, 29, 30, 31]) $$ F_copyRes_rsS_1 with ⟨T362, F_copyRes_rsS_1⟩
  icases (bigSepL_pop (fun k : Fin 32 => accSrcAt m c 1 k) 4 5 [6, 7, 8, 9, 10, 11, 12, 13, 14, 15, 16, 17, 18, 19, 20, 21, 22, 23, 24, 25, 26, 27, 28, 29, 30, 31]) $$ F_accSrc_1 with ⟨T363, F_accSrc_1⟩
  icases (bigSepL_pop (fun k : Fin 32 => peerSlotAt c 1 k) 4 5 [6, 7, 8, 9, 10, 11, 12, 13, 14, 15, 16, 17, 18, 19, 20, 21, 22, 23, 24, 25, 26, 27, 28, 29, 30, 31]) $$ F_peerSlot_1 with ⟨T364, F_peerSlot_1⟩
  icases (bigSepL_pop (fun k : Fin 32 => copyRes m K rsS rsR c 1 k) 5 6 [7, 8, 9, 10, 11, 12, 13, 14, 15, 16, 17, 18, 19, 20, 21, 22, 23, 24, 25, 26, 27, 28, 29, 30, 31]) $$ F_copyRes_rsS_1 with ⟨T365, F_copyRes_rsS_1⟩
  icases (bigSepL_pop (fun k : Fin 32 => accSrcAt m c 1 k) 5 6 [7, 8, 9, 10, 11, 12, 13, 14, 15, 16, 17, 18, 19, 20, 21, 22, 23, 24, 25, 26, 27, 28, 29, 30, 31]) $$ F_accSrc_1 with ⟨T366, F_accSrc_1⟩
  icases (bigSepL_pop (fun k : Fin 32 => peerSlotAt c 1 k) 5 6 [7, 8, 9, 10, 11, 12, 13, 14, 15, 16, 17, 18, 19, 20, 21, 22, 23, 24, 25, 26, 27, 28, 29, 30, 31]) $$ F_peerSlot_1 with ⟨T367, F_peerSlot_1⟩
  icases (bigSepL_pop (fun k : Fin 32 => copyRes m K rsS rsR c 1 k) 6 7 [8, 9, 10, 11, 12, 13, 14, 15, 16, 17, 18, 19, 20, 21, 22, 23, 24, 25, 26, 27, 28, 29, 30, 31]) $$ F_copyRes_rsS_1 with ⟨T368, F_copyRes_rsS_1⟩
  icases (bigSepL_pop (fun k : Fin 32 => accSrcAt m c 1 k) 6 7 [8, 9, 10, 11, 12, 13, 14, 15, 16, 17, 18, 19, 20, 21, 22, 23, 24, 25, 26, 27, 28, 29, 30, 31]) $$ F_accSrc_1 with ⟨T369, F_accSrc_1⟩
  icases (bigSepL_pop (fun k : Fin 32 => peerSlotAt c 1 k) 6 7 [8, 9, 10, 11, 12, 13, 14, 15, 16, 17, 18, 19, 20, 21, 22, 23, 24, 25, 26, 27, 28, 29, 30, 31]) $$ F_peerSlot_1 with ⟨T370, F_peerSlot_1⟩
  rw [owed_step_65 c, owed_step_66 c, owed_step_67 c]
  rw [wp_bind]
  iapply (part23_spec' m K c _ (owedAfter c 68) (((((((((((((((((insert (SemLoc.reg barS, ()) (W)))))))))))))))))))
  isplitl [T362]
  · iexact T362
  isplitl [T363]
  · iexact T363
  isplitl [T364]
  · iexact T364
  isplitl [T365]
  · iexact T365
  isplitl [T366]
  · iexact T366
  isplitl [T367]
  · iexact T367
  isplitl [T368]
  · iexact T368
  isplitl [T369]
  · iexact T369
  isplitl [T370]
  · iexact T370
  isplitl [H_owes]
  · iexact H_owes
  iintro %r ⟨P371, P372, P373, H_owes⟩
  obtain ⟨v603, c32_i32_662⟩ := r
  try dsimp only
  ihave F_recvRes_rsS_1 := (bigSepL_snoc (fun k : Fin 32 => recvRes m K rsS c 1 k) [1, 2, 3] 4 [1, 2, 3, 4] rfl) $$ [F_recvRes_rsS_1 P371]
  · isplitl [F_recvRes_rsS_1] <;> iassumption
  ihave F_recvRes_rsS_1 := (bigSepL_snoc (fun k : Fin 32 => recvRes m K rsS c 1 k) [1, 2, 3, 4] 5 [1, 2, 3, 4, 5] rfl) $$ [F_recvRes_rsS_1 P372]
  · isplitl [F_recvRes_rsS_1] <;> iassumption
  ihave F_recvRes_rsS_1 := (bigSepL_snoc (fun k : Fin 32 => recvRes m K rsS c 1 k) [1, 2, 3, 4, 5] 6 [1, 2, 3, 4, 5, 6] rfl) $$ [F_recvRes_rsS_1 P373]
  · isplitl [F_recvRes_rsS_1] <;> iassumption
  -- k0_part24
  icases (bigSepL_pop (fun k : Fin 32 => copyRes m K rsS rsR c 1 k) 7 8 [9, 10, 11, 12, 13, 14, 15, 16, 17, 18, 19, 20, 21, 22, 23, 24, 25, 26, 27, 28, 29, 30, 31]) $$ F_copyRes_rsS_1 with ⟨T374, F_copyRes_rsS_1⟩
  icases (bigSepL_pop (fun k : Fin 32 => accSrcAt m c 1 k) 7 8 [9, 10, 11, 12, 13, 14, 15, 16, 17, 18, 19, 20, 21, 22, 23, 24, 25, 26, 27, 28, 29, 30, 31]) $$ F_accSrc_1 with ⟨T375, F_accSrc_1⟩
  icases (bigSepL_pop (fun k : Fin 32 => peerSlotAt c 1 k) 7 8 [9, 10, 11, 12, 13, 14, 15, 16, 17, 18, 19, 20, 21, 22, 23, 24, 25, 26, 27, 28, 29, 30, 31]) $$ F_peerSlot_1 with ⟨T376, F_peerSlot_1⟩
  icases (bigSepL_pop (fun k : Fin 32 => copyRes m K rsS rsR c 1 k) 8 9 [10, 11, 12, 13, 14, 15, 16, 17, 18, 19, 20, 21, 22, 23, 24, 25, 26, 27, 28, 29, 30, 31]) $$ F_copyRes_rsS_1 with ⟨T377, F_copyRes_rsS_1⟩
  icases (bigSepL_pop (fun k : Fin 32 => accSrcAt m c 1 k) 8 9 [10, 11, 12, 13, 14, 15, 16, 17, 18, 19, 20, 21, 22, 23, 24, 25, 26, 27, 28, 29, 30, 31]) $$ F_accSrc_1 with ⟨T378, F_accSrc_1⟩
  icases (bigSepL_pop (fun k : Fin 32 => peerSlotAt c 1 k) 8 9 [10, 11, 12, 13, 14, 15, 16, 17, 18, 19, 20, 21, 22, 23, 24, 25, 26, 27, 28, 29, 30, 31]) $$ F_peerSlot_1 with ⟨T379, F_peerSlot_1⟩
  rw [owed_step_68 c, owed_step_69 c]
  rw [wp_bind]
  iapply (part24_spec' m K c _ _ _ (owedAfter c 70) ((((((((((((((((((insert (SemLoc.reg barS, ()) (W))))))))))))))))))))
  isplitl [T374]
  · iexact T374
  isplitl [T375]
  · iexact T375
  isplitl [T376]
  · iexact T376
  isplitl [T377]
  · iexact T377
  isplitl [T378]
  · iexact T378
  isplitl [T379]
  · iexact T379
  isplitl [H_owes]
  · iexact H_owes
  iintro %v627 ⟨P380, P381, H_owes⟩
  try dsimp only
  ihave F_recvRes_rsS_1 := (bigSepL_snoc (fun k : Fin 32 => recvRes m K rsS c 1 k) [1, 2, 3, 4, 5, 6] 7 [1, 2, 3, 4, 5, 6, 7] rfl) $$ [F_recvRes_rsS_1 P380]
  · isplitl [F_recvRes_rsS_1] <;> iassumption
  ihave F_recvRes_rsS_1 := (bigSepL_snoc (fun k : Fin 32 => recvRes m K rsS c 1 k) [1, 2, 3, 4, 5, 6, 7] 8 [1, 2, 3, 4, 5, 6, 7, 8] rfl) $$ [F_recvRes_rsS_1 P381]
  · isplitl [F_recvRes_rsS_1] <;> iassumption
  -- k0_part25
  icases (bigSepL_pop (fun k : Fin 32 => copyRes m K rsS rsR c 1 k) 9 10 [11, 12, 13, 14, 15, 16, 17, 18, 19, 20, 21, 22, 23, 24, 25, 26, 27, 28, 29, 30, 31]) $$ F_copyRes_rsS_1 with ⟨T382, F_copyRes_rsS_1⟩
  icases (bigSepL_pop (fun k : Fin 32 => accSrcAt m c 1 k) 9 10 [11, 12, 13, 14, 15, 16, 17, 18, 19, 20, 21, 22, 23, 24, 25, 26, 27, 28, 29, 30, 31]) $$ F_accSrc_1 with ⟨T383, F_accSrc_1⟩
  icases (bigSepL_pop (fun k : Fin 32 => peerSlotAt c 1 k) 9 10 [11, 12, 13, 14, 15, 16, 17, 18, 19, 20, 21, 22, 23, 24, 25, 26, 27, 28, 29, 30, 31]) $$ F_peerSlot_1 with ⟨T384, F_peerSlot_1⟩
  icases (bigSepL_pop (fun k : Fin 32 => copyRes m K rsS rsR c 1 k) 10 11 [12, 13, 14, 15, 16, 17, 18, 19, 20, 21, 22, 23, 24, 25, 26, 27, 28, 29, 30, 31]) $$ F_copyRes_rsS_1 with ⟨T385, F_copyRes_rsS_1⟩
  icases (bigSepL_pop (fun k : Fin 32 => accSrcAt m c 1 k) 10 11 [12, 13, 14, 15, 16, 17, 18, 19, 20, 21, 22, 23, 24, 25, 26, 27, 28, 29, 30, 31]) $$ F_accSrc_1 with ⟨T386, F_accSrc_1⟩
  icases (bigSepL_pop (fun k : Fin 32 => peerSlotAt c 1 k) 10 11 [12, 13, 14, 15, 16, 17, 18, 19, 20, 21, 22, 23, 24, 25, 26, 27, 28, 29, 30, 31]) $$ F_peerSlot_1 with ⟨T387, F_peerSlot_1⟩
  rw [owed_step_70 c, owed_step_71 c]
  rw [wp_bind]
  iapply (part25_spec' m K c _ _ (owedAfter c 72) (((((((((((((((((((insert (SemLoc.reg barS, ()) (W)))))))))))))))))))))
  isplitl [T382]
  · iexact T382
  isplitl [T383]
  · iexact T383
  isplitl [T384]
  · iexact T384
  isplitl [T385]
  · iexact T385
  isplitl [T386]
  · iexact T386
  isplitl [T387]
  · iexact T387
  isplitl [H_owes]
  · iexact H_owes
  iintro %r ⟨P388, P389, H_owes⟩
  try dsimp only
  ihave F_recvRes_rsS_1 := (bigSepL_snoc (fun k : Fin 32 => recvRes m K rsS c 1 k) [1, 2, 3, 4, 5, 6, 7, 8] 9 [1, 2, 3, 4, 5, 6, 7, 8, 9] rfl) $$ [F_recvRes_rsS_1 P388]
  · isplitl [F_recvRes_rsS_1] <;> iassumption
  ihave F_recvRes_rsS_1 := (bigSepL_snoc (fun k : Fin 32 => recvRes m K rsS c 1 k) [1, 2, 3, 4, 5, 6, 7, 8, 9] 10 [1, 2, 3, 4, 5, 6, 7, 8, 9, 10] rfl) $$ [F_recvRes_rsS_1 P389]
  · isplitl [F_recvRes_rsS_1] <;> iassumption
  -- k0_part26
  icases (bigSepL_pop (fun k : Fin 32 => copyRes m K rsS rsR c 1 k) 11 12 [13, 14, 15, 16, 17, 18, 19, 20, 21, 22, 23, 24, 25, 26, 27, 28, 29, 30, 31]) $$ F_copyRes_rsS_1 with ⟨T390, F_copyRes_rsS_1⟩
  icases (bigSepL_pop (fun k : Fin 32 => accSrcAt m c 1 k) 11 12 [13, 14, 15, 16, 17, 18, 19, 20, 21, 22, 23, 24, 25, 26, 27, 28, 29, 30, 31]) $$ F_accSrc_1 with ⟨T391, F_accSrc_1⟩
  icases (bigSepL_pop (fun k : Fin 32 => peerSlotAt c 1 k) 11 12 [13, 14, 15, 16, 17, 18, 19, 20, 21, 22, 23, 24, 25, 26, 27, 28, 29, 30, 31]) $$ F_peerSlot_1 with ⟨T392, F_peerSlot_1⟩
  icases (bigSepL_pop (fun k : Fin 32 => copyRes m K rsS rsR c 1 k) 12 13 [14, 15, 16, 17, 18, 19, 20, 21, 22, 23, 24, 25, 26, 27, 28, 29, 30, 31]) $$ F_copyRes_rsS_1 with ⟨T393, F_copyRes_rsS_1⟩
  icases (bigSepL_pop (fun k : Fin 32 => accSrcAt m c 1 k) 12 13 [14, 15, 16, 17, 18, 19, 20, 21, 22, 23, 24, 25, 26, 27, 28, 29, 30, 31]) $$ F_accSrc_1 with ⟨T394, F_accSrc_1⟩
  icases (bigSepL_pop (fun k : Fin 32 => peerSlotAt c 1 k) 12 13 [14, 15, 16, 17, 18, 19, 20, 21, 22, 23, 24, 25, 26, 27, 28, 29, 30, 31]) $$ F_peerSlot_1 with ⟨T395, F_peerSlot_1⟩
  rw [owed_step_72 c, owed_step_73 c]
  rw [wp_bind]
  iapply (part26_spec' m K c _ (owedAfter c 74) ((((((((((((((((((((insert (SemLoc.reg barS, ()) (W))))))))))))))))))))))
  isplitl [T390]
  · iexact T390
  isplitl [T391]
  · iexact T391
  isplitl [T392]
  · iexact T392
  isplitl [T393]
  · iexact T393
  isplitl [T394]
  · iexact T394
  isplitl [T395]
  · iexact T395
  isplitl [H_owes]
  · iexact H_owes
  iintro %r ⟨P396, P397, H_owes⟩
  try dsimp only
  ihave F_recvRes_rsS_1 := (bigSepL_snoc (fun k : Fin 32 => recvRes m K rsS c 1 k) [1, 2, 3, 4, 5, 6, 7, 8, 9, 10] 11 [1, 2, 3, 4, 5, 6, 7, 8, 9, 10, 11] rfl) $$ [F_recvRes_rsS_1 P396]
  · isplitl [F_recvRes_rsS_1] <;> iassumption
  ihave F_recvRes_rsS_1 := (bigSepL_snoc (fun k : Fin 32 => recvRes m K rsS c 1 k) [1, 2, 3, 4, 5, 6, 7, 8, 9, 10, 11] 12 [1, 2, 3, 4, 5, 6, 7, 8, 9, 10, 11, 12] rfl) $$ [F_recvRes_rsS_1 P397]
  · isplitl [F_recvRes_rsS_1] <;> iassumption
  -- k0_part27
  icases (bigSepL_pop (fun k : Fin 32 => copyRes m K rsS rsR c 1 k) 13 14 [15, 16, 17, 18, 19, 20, 21, 22, 23, 24, 25, 26, 27, 28, 29, 30, 31]) $$ F_copyRes_rsS_1 with ⟨T398, F_copyRes_rsS_1⟩
  icases (bigSepL_pop (fun k : Fin 32 => accSrcAt m c 1 k) 13 14 [15, 16, 17, 18, 19, 20, 21, 22, 23, 24, 25, 26, 27, 28, 29, 30, 31]) $$ F_accSrc_1 with ⟨T399, F_accSrc_1⟩
  icases (bigSepL_pop (fun k : Fin 32 => peerSlotAt c 1 k) 13 14 [15, 16, 17, 18, 19, 20, 21, 22, 23, 24, 25, 26, 27, 28, 29, 30, 31]) $$ F_peerSlot_1 with ⟨T400, F_peerSlot_1⟩
  icases (bigSepL_pop (fun k : Fin 32 => copyRes m K rsS rsR c 1 k) 14 15 [16, 17, 18, 19, 20, 21, 22, 23, 24, 25, 26, 27, 28, 29, 30, 31]) $$ F_copyRes_rsS_1 with ⟨T401, F_copyRes_rsS_1⟩
  icases (bigSepL_pop (fun k : Fin 32 => accSrcAt m c 1 k) 14 15 [16, 17, 18, 19, 20, 21, 22, 23, 24, 25, 26, 27, 28, 29, 30, 31]) $$ F_accSrc_1 with ⟨T402, F_accSrc_1⟩
  icases (bigSepL_pop (fun k : Fin 32 => peerSlotAt c 1 k) 14 15 [16, 17, 18, 19, 20, 21, 22, 23, 24, 25, 26, 27, 28, 29, 30, 31]) $$ F_peerSlot_1 with ⟨T403, F_peerSlot_1⟩
  icases (bigSepL_pop (fun k : Fin 32 => copyRes m K rsS rsR c 1 k) 15 16 [17, 18, 19, 20, 21, 22, 23, 24, 25, 26, 27, 28, 29, 30, 31]) $$ F_copyRes_rsS_1 with ⟨T404, F_copyRes_rsS_1⟩
  icases (bigSepL_pop (fun k : Fin 32 => accSrcAt m c 1 k) 15 16 [17, 18, 19, 20, 21, 22, 23, 24, 25, 26, 27, 28, 29, 30, 31]) $$ F_accSrc_1 with ⟨T405, F_accSrc_1⟩
  icases (bigSepL_pop (fun k : Fin 32 => peerSlotAt c 1 k) 15 16 [17, 18, 19, 20, 21, 22, 23, 24, 25, 26, 27, 28, 29, 30, 31]) $$ F_peerSlot_1 with ⟨T406, F_peerSlot_1⟩
  rw [owed_step_74 c, owed_step_75 c, owed_step_76 c]
  rw [wp_bind]
  iapply (part27_spec' m K c _ (owedAfter c 77) (((((((((((((((((((((insert (SemLoc.reg barS, ()) (W)))))))))))))))))))))))
  isplitl [T398]
  · iexact T398
  isplitl [T399]
  · iexact T399
  isplitl [T400]
  · iexact T400
  isplitl [T401]
  · iexact T401
  isplitl [T402]
  · iexact T402
  isplitl [T403]
  · iexact T403
  isplitl [T404]
  · iexact T404
  isplitl [T405]
  · iexact T405
  isplitl [T406]
  · iexact T406
  isplitl [H_owes]
  · iexact H_owes
  iintro %v710 ⟨P407, P408, P409, H_owes⟩
  try dsimp only
  ihave F_recvRes_rsS_1 := (bigSepL_snoc (fun k : Fin 32 => recvRes m K rsS c 1 k) [1, 2, 3, 4, 5, 6, 7, 8, 9, 10, 11, 12] 13 [1, 2, 3, 4, 5, 6, 7, 8, 9, 10, 11, 12, 13] rfl) $$ [F_recvRes_rsS_1 P407]
  · isplitl [F_recvRes_rsS_1] <;> iassumption
  ihave F_recvRes_rsS_1 := (bigSepL_snoc (fun k : Fin 32 => recvRes m K rsS c 1 k) [1, 2, 3, 4, 5, 6, 7, 8, 9, 10, 11, 12, 13] 14 [1, 2, 3, 4, 5, 6, 7, 8, 9, 10, 11, 12, 13, 14] rfl) $$ [F_recvRes_rsS_1 P408]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14] 15 [1, 2, 3, 4, 5, 6, 7, 8, 9, 10, 11, 12, 13, 14, 15] rfl) $$ [F_recvRes_rsS_1 P409]
  · isplitl [F_recvRes_rsS_1] <;> iassumption
  -- k0_part28
  icases (bigSepL_pop (fun k : Fin 32 => copyRes m K rsS rsR c 1 k) 16 17 [18, 19, 20, 21, 22, 23, 24, 25, 26, 27, 28, 29, 30, 31]) $$ F_copyRes_rsS_1 with ⟨T410, F_copyRes_rsS_1⟩
  icases (bigSepL_pop (fun k : Fin 32 => accSrcAt m c 1 k) 16 17 [18, 19, 20, 21, 22, 23, 24, 25, 26, 27, 28, 29, 30, 31]) $$ F_accSrc_1 with ⟨T411, F_accSrc_1⟩
  icases (bigSepL_pop (fun k : Fin 32 => peerSlotAt c 1 k) 16 17 [18, 19, 20, 21, 22, 23, 24, 25, 26, 27, 28, 29, 30, 31]) $$ F_peerSlot_1 with ⟨T412, F_peerSlot_1⟩
  icases (bigSepL_pop (fun k : Fin 32 => copyRes m K rsS rsR c 1 k) 17 18 [19, 20, 21, 22, 23, 24, 25, 26, 27, 28, 29, 30, 31]) $$ F_copyRes_rsS_1 with ⟨T413, F_copyRes_rsS_1⟩
  icases (bigSepL_pop (fun k : Fin 32 => accSrcAt m c 1 k) 17 18 [19, 20, 21, 22, 23, 24, 25, 26, 27, 28, 29, 30, 31]) $$ F_accSrc_1 with ⟨T414, F_accSrc_1⟩
  icases (bigSepL_pop (fun k : Fin 32 => peerSlotAt c 1 k) 17 18 [19, 20, 21, 22, 23, 24, 25, 26, 27, 28, 29, 30, 31]) $$ F_peerSlot_1 with ⟨T415, F_peerSlot_1⟩
  rw [owed_step_77 c, owed_step_78 c]
  rw [wp_bind]
  iapply (part28_spec' m K c _ _ (owedAfter c 79) ((((((((((((((((((((((insert (SemLoc.reg barS, ()) (W))))))))))))))))))))))))
  isplitl [T410]
  · iexact T410
  isplitl [T411]
  · iexact T411
  isplitl [T412]
  · iexact T412
  isplitl [T413]
  · iexact T413
  isplitl [T414]
  · iexact T414
  isplitl [T415]
  · iexact T415
  isplitl [H_owes]
  · iexact H_owes
  iintro %v735 ⟨P416, P417, H_owes⟩
  try dsimp only
  ihave F_recvRes_rsS_1 := (bigSepL_snoc (fun k : Fin 32 => recvRes m K rsS c 1 k) [1, 2, 3, 4, 5, 6, 7, 8, 9, 10, 11, 12, 13, 14, 15] 16 [1, 2, 3, 4, 5, 6, 7, 8, 9, 10, 11, 12, 13, 14, 15, 16] rfl) $$ [F_recvRes_rsS_1 P416]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14, 15, 16] 17 [1, 2, 3, 4, 5, 6, 7, 8, 9, 10, 11, 12, 13, 14, 15, 16, 17] rfl) $$ [F_recvRes_rsS_1 P417]
  · isplitl [F_recvRes_rsS_1] <;> iassumption
  -- k0_part29
  icases (bigSepL_pop (fun k : Fin 32 => copyRes m K rsS rsR c 1 k) 18 19 [20, 21, 22, 23, 24, 25, 26, 27, 28, 29, 30, 31]) $$ F_copyRes_rsS_1 with ⟨T418, F_copyRes_rsS_1⟩
  icases (bigSepL_pop (fun k : Fin 32 => accSrcAt m c 1 k) 18 19 [20, 21, 22, 23, 24, 25, 26, 27, 28, 29, 30, 31]) $$ F_accSrc_1 with ⟨T419, F_accSrc_1⟩
  icases (bigSepL_pop (fun k : Fin 32 => peerSlotAt c 1 k) 18 19 [20, 21, 22, 23, 24, 25, 26, 27, 28, 29, 30, 31]) $$ F_peerSlot_1 with ⟨T420, F_peerSlot_1⟩
  icases (bigSepL_pop (fun k : Fin 32 => copyRes m K rsS rsR c 1 k) 19 20 [21, 22, 23, 24, 25, 26, 27, 28, 29, 30, 31]) $$ F_copyRes_rsS_1 with ⟨T421, F_copyRes_rsS_1⟩
  icases (bigSepL_pop (fun k : Fin 32 => accSrcAt m c 1 k) 19 20 [21, 22, 23, 24, 25, 26, 27, 28, 29, 30, 31]) $$ F_accSrc_1 with ⟨T422, F_accSrc_1⟩
  icases (bigSepL_pop (fun k : Fin 32 => peerSlotAt c 1 k) 19 20 [21, 22, 23, 24, 25, 26, 27, 28, 29, 30, 31]) $$ F_peerSlot_1 with ⟨T423, F_peerSlot_1⟩
  rw [owed_step_79 c, owed_step_80 c]
  rw [wp_bind]
  iapply (part29_spec' m K c _ _ (owedAfter c 81) (((((((((((((((((((((((insert (SemLoc.reg barS, ()) (W)))))))))))))))))))))))))
  isplitl [T418]
  · iexact T418
  isplitl [T419]
  · iexact T419
  isplitl [T420]
  · iexact T420
  isplitl [T421]
  · iexact T421
  isplitl [T422]
  · iexact T422
  isplitl [T423]
  · iexact T423
  isplitl [H_owes]
  · iexact H_owes
  iintro %v761 ⟨P424, P425, H_owes⟩
  try dsimp only
  ihave F_recvRes_rsS_1 := (bigSepL_snoc (fun k : Fin 32 => recvRes m K rsS c 1 k) [1, 2, 3, 4, 5, 6, 7, 8, 9, 10, 11, 12, 13, 14, 15, 16, 17] 18 [1, 2, 3, 4, 5, 6, 7, 8, 9, 10, 11, 12, 13, 14, 15, 16, 17, 18] rfl) $$ [F_recvRes_rsS_1 P424]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_recvRes_rsS_1 P425]
  · isplitl [F_recvRes_rsS_1] <;> iassumption
  -- k0_part30
  icases (bigSepL_pop (fun k : Fin 32 => copyRes m K rsS rsR c 1 k) 20 21 [22, 23, 24, 25, 26, 27, 28, 29, 30, 31]) $$ F_copyRes_rsS_1 with ⟨T426, F_copyRes_rsS_1⟩
  icases (bigSepL_pop (fun k : Fin 32 => accSrcAt m c 1 k) 20 21 [22, 23, 24, 25, 26, 27, 28, 29, 30, 31]) $$ F_accSrc_1 with ⟨T427, F_accSrc_1⟩
  icases (bigSepL_pop (fun k : Fin 32 => peerSlotAt c 1 k) 20 21 [22, 23, 24, 25, 26, 27, 28, 29, 30, 31]) $$ F_peerSlot_1 with ⟨T428, F_peerSlot_1⟩
  icases (bigSepL_pop (fun k : Fin 32 => copyRes m K rsS rsR c 1 k) 21 22 [23, 24, 25, 26, 27, 28, 29, 30, 31]) $$ F_copyRes_rsS_1 with ⟨T429, F_copyRes_rsS_1⟩
  icases (bigSepL_pop (fun k : Fin 32 => accSrcAt m c 1 k) 21 22 [23, 24, 25, 26, 27, 28, 29, 30, 31]) $$ F_accSrc_1 with ⟨T430, F_accSrc_1⟩
  icases (bigSepL_pop (fun k : Fin 32 => peerSlotAt c 1 k) 21 22 [23, 24, 25, 26, 27, 28, 29, 30, 31]) $$ F_peerSlot_1 with ⟨T431, F_peerSlot_1⟩
  rw [owed_step_81 c, owed_step_82 c]
  rw [wp_bind]
  iapply (part30_spec' m K c _ _ (owedAfter c 83) ((((((((((((((((((((((((insert (SemLoc.reg barS, ()) (W))))))))))))))))))))))))))
  isplitl [T426]
  · iexact T426
  isplitl [T427]
  · iexact T427
  isplitl [T428]
  · iexact T428
  isplitl [T429]
  · iexact T429
  isplitl [T430]
  · iexact T430
  isplitl [T431]
  · iexact T431
  isplitl [H_owes]
  · iexact H_owes
  iintro %r ⟨P432, P433, H_owes⟩
  try dsimp only
  ihave F_recvRes_rsS_1 := (bigSepL_snoc (fun k : Fin 32 => recvRes m K rsS c 1 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_recvRes_rsS_1 P432]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_recvRes_rsS_1 P433]
  · isplitl [F_recvRes_rsS_1] <;> iassumption
  -- k0_part31
  icases (bigSepL_pop (fun k : Fin 32 => copyRes m K rsS rsR c 1 k) 22 23 [24, 25, 26, 27, 28, 29, 30, 31]) $$ F_copyRes_rsS_1 with ⟨T434, F_copyRes_rsS_1⟩
  icases (bigSepL_pop (fun k : Fin 32 => accSrcAt m c 1 k) 22 23 [24, 25, 26, 27, 28, 29, 30, 31]) $$ F_accSrc_1 with ⟨T435, F_accSrc_1⟩
  icases (bigSepL_pop (fun k : Fin 32 => peerSlotAt c 1 k) 22 23 [24, 25, 26, 27, 28, 29, 30, 31]) $$ F_peerSlot_1 with ⟨T436, F_peerSlot_1⟩
  icases (bigSepL_pop (fun k : Fin 32 => copyRes m K rsS rsR c 1 k) 23 24 [25, 26, 27, 28, 29, 30, 31]) $$ F_copyRes_rsS_1 with ⟨T437, F_copyRes_rsS_1⟩
  icases (bigSepL_pop (fun k : Fin 32 => accSrcAt m c 1 k) 23 24 [25, 26, 27, 28, 29, 30, 31]) $$ F_accSrc_1 with ⟨T438, F_accSrc_1⟩
  icases (bigSepL_pop (fun k : Fin 32 => peerSlotAt c 1 k) 23 24 [25, 26, 27, 28, 29, 30, 31]) $$ F_peerSlot_1 with ⟨T439, F_peerSlot_1⟩
  rw [owed_step_83 c, owed_step_84 c]
  rw [wp_bind]
  iapply (part31_spec' m K c _ (owedAfter c 85) (((((((((((((((((((((((((insert (SemLoc.reg barS, ()) (W)))))))))))))))))))))))))))
  isplitl [T434]
  · iexact T434
  isplitl [T435]
  · iexact T435
  isplitl [T436]
  · iexact T436
  isplitl [T437]
  · iexact T437
  isplitl [T438]
  · iexact T438
  isplitl [T439]
  · iexact T439
  isplitl [H_owes]
  · iexact H_owes
  iintro %r ⟨P440, P441, H_owes⟩
  try dsimp only
  ihave F_recvRes_rsS_1 := (bigSepL_snoc (fun k : Fin 32 => recvRes m K rsS c 1 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_recvRes_rsS_1 P440]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_recvRes_rsS_1 P441]
  · isplitl [F_recvRes_rsS_1] <;> iassumption
  -- k0_part32
  icases (bigSepL_pop (fun k : Fin 32 => copyRes m K rsS rsR c 1 k) 24 25 [26, 27, 28, 29, 30, 31]) $$ F_copyRes_rsS_1 with ⟨T442, F_copyRes_rsS_1⟩
  icases (bigSepL_pop (fun k : Fin 32 => accSrcAt m c 1 k) 24 25 [26, 27, 28, 29, 30, 31]) $$ F_accSrc_1 with ⟨T443, F_accSrc_1⟩
  icases (bigSepL_pop (fun k : Fin 32 => peerSlotAt c 1 k) 24 25 [26, 27, 28, 29, 30, 31]) $$ F_peerSlot_1 with ⟨T444, F_peerSlot_1⟩
  icases (bigSepL_pop (fun k : Fin 32 => copyRes m K rsS rsR c 1 k) 25 26 [27, 28, 29, 30, 31]) $$ F_copyRes_rsS_1 with ⟨T445, F_copyRes_rsS_1⟩
  icases (bigSepL_pop (fun k : Fin 32 => accSrcAt m c 1 k) 25 26 [27, 28, 29, 30, 31]) $$ F_accSrc_1 with ⟨T446, F_accSrc_1⟩
  icases (bigSepL_pop (fun k : Fin 32 => peerSlotAt c 1 k) 25 26 [27, 28, 29, 30, 31]) $$ F_peerSlot_1 with ⟨T447, F_peerSlot_1⟩
  icases (bigSepL_pop (fun k : Fin 32 => copyRes m K rsS rsR c 1 k) 26 27 [28, 29, 30, 31]) $$ F_copyRes_rsS_1 with ⟨T448, F_copyRes_rsS_1⟩
  icases (bigSepL_pop (fun k : Fin 32 => accSrcAt m c 1 k) 26 27 [28, 29, 30, 31]) $$ F_accSrc_1 with ⟨T449, F_accSrc_1⟩
  icases (bigSepL_pop (fun k : Fin 32 => peerSlotAt c 1 k) 26 27 [28, 29, 30, 31]) $$ F_peerSlot_1 with ⟨T450, F_peerSlot_1⟩
  rw [owed_step_85 c, owed_step_86 c, owed_step_87 c]
  rw [wp_bind]
  iapply (part32_spec' m K c _ (owedAfter c 88) ((((((((((((((((((((((((((insert (SemLoc.reg barS, ()) (W))))))))))))))))))))))))))))
  isplitl [T442]
  · iexact T442
  isplitl [T443]
  · iexact T443
  isplitl [T444]
  · iexact T444
  isplitl [T445]
  · iexact T445
  isplitl [T446]
  · iexact T446
  isplitl [T447]
  · iexact T447
  isplitl [T448]
  · iexact T448
  isplitl [T449]
  · iexact T449
  isplitl [T450]
  · iexact T450
  isplitl [H_owes]
  · iexact H_owes
  iintro %r ⟨P451, P452, P453, H_owes⟩
  obtain ⟨v843, c32_i32_942⟩ := r
  try dsimp only
  ihave F_recvRes_rsS_1 := (bigSepL_snoc (fun k : Fin 32 => recvRes m K rsS c 1 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_recvRes_rsS_1 P451]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_recvRes_rsS_1 P452]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_recvRes_rsS_1 P453]
  · isplitl [F_recvRes_rsS_1] <;> iassumption
  -- k0_part33
  icases (bigSepL_pop (fun k : Fin 32 => copyRes m K rsS rsR c 1 k) 27 28 [29, 30, 31]) $$ F_copyRes_rsS_1 with ⟨T454, F_copyRes_rsS_1⟩
  icases (bigSepL_pop (fun k : Fin 32 => accSrcAt m c 1 k) 27 28 [29, 30, 31]) $$ F_accSrc_1 with ⟨T455, F_accSrc_1⟩
  icases (bigSepL_pop (fun k : Fin 32 => peerSlotAt c 1 k) 27 28 [29, 30, 31]) $$ F_peerSlot_1 with ⟨T456, F_peerSlot_1⟩
  icases (bigSepL_pop (fun k : Fin 32 => copyRes m K rsS rsR c 1 k) 28 29 [30, 31]) $$ F_copyRes_rsS_1 with ⟨T457, F_copyRes_rsS_1⟩
  icases (bigSepL_pop (fun k : Fin 32 => accSrcAt m c 1 k) 28 29 [30, 31]) $$ F_accSrc_1 with ⟨T458, F_accSrc_1⟩
  icases (bigSepL_pop (fun k : Fin 32 => peerSlotAt c 1 k) 28 29 [30, 31]) $$ F_peerSlot_1 with ⟨T459, F_peerSlot_1⟩
  rw [owed_step_88 c, owed_step_89 c]
  rw [wp_bind]
  iapply (part33_spec' m K c _ _ _ (owedAfter c 90) (((((((((((((((((((((((((((insert (SemLoc.reg barS, ()) (W)))))))))))))))))))))))))))))
  isplitl [T454]
  · iexact T454
  isplitl [T455]
  · iexact T455
  isplitl [T456]
  · iexact T456
  isplitl [T457]
  · iexact T457
  isplitl [T458]
  · iexact T458
  isplitl [T459]
  · iexact T459
  isplitl [H_owes]
  · iexact H_owes
  iintro %v867 ⟨P460, P461, H_owes⟩
  try dsimp only
  ihave F_recvRes_rsS_1 := (bigSepL_snoc (fun k : Fin 32 => recvRes m K rsS c 1 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_recvRes_rsS_1 P460]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_recvRes_rsS_1 P461]
  · isplitl [F_recvRes_rsS_1] <;> iassumption
  -- k0_part34
  icases (bigSepL_pop (fun k : Fin 32 => copyRes m K rsS rsR c 1 k) 29 30 [31]) $$ F_copyRes_rsS_1 with ⟨T462, F_copyRes_rsS_1⟩
  icases (bigSepL_pop (fun k : Fin 32 => accSrcAt m c 1 k) 29 30 [31]) $$ F_accSrc_1 with ⟨T463, F_accSrc_1⟩
  icases (bigSepL_pop (fun k : Fin 32 => peerSlotAt c 1 k) 29 30 [31]) $$ F_peerSlot_1 with ⟨T464, F_peerSlot_1⟩
  icases (bigSepL_pop (fun k : Fin 32 => copyRes m K rsS rsR c 1 k) 30 31 []) $$ F_copyRes_rsS_1 with ⟨T465, F_copyRes_rsS_1⟩
  icases (bigSepL_pop (fun k : Fin 32 => accSrcAt m c 1 k) 30 31 []) $$ F_accSrc_1 with ⟨T466, F_accSrc_1⟩
  icases (bigSepL_pop (fun k : Fin 32 => peerSlotAt c 1 k) 30 31 []) $$ F_peerSlot_1 with ⟨T467, F_peerSlot_1⟩
  rw [owed_step_90 c, owed_step_91 c]
  rw [wp_bind]
  iapply (part34_spec' m K c _ _ (owedAfter c 92) ((((((((((((((((((((((((((((insert (SemLoc.reg barS, ()) (W))))))))))))))))))))))))))))))
  isplitl [T462]
  · iexact T462
  isplitl [T463]
  · iexact T463
  isplitl [T464]
  · iexact T464
  isplitl [T465]
  · iexact T465
  isplitl [T466]
  · iexact T466
  isplitl [T467]
  · iexact T467
  isplitl [H_owes]
  · iexact H_owes
  iintro %r ⟨P468, P469, H_owes⟩
  try dsimp only
  ihave F_recvRes_rsS_1 := (bigSepL_snoc (fun k : Fin 32 => recvRes m K rsS c 1 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_recvRes_rsS_1 P468]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_recvRes_rsS_1 P469]
  · isplitl [F_recvRes_rsS_1] <;> iassumption
  -- k0_part35
  ihave T470 := (bigSepL_one (fun k : Fin 32 => copyRes m K rsS rsR c 1 k) 31) $$ F_copyRes_rsS_1
  ihave T471 := (bigSepL_one (fun k : Fin 32 => accSrcAt m c 1 k) 31) $$ F_accSrc_1
  ihave T472 := (bigSepL_one (fun k : Fin 32 => peerSlotAt c 1 k) 31) $$ F_peerSlot_1
  icases (bigSepL_pop (fun k : Fin 32 => recvRes m K rsR c 0 k) 1 2 [3, 4, 5, 6, 7, 8, 9, 10, 11, 12, 13, 14, 15, 16, 17, 18, 19, 20, 21, 22, 23, 24, 25, 26, 27, 28, 29, 30, 31]) $$ F_recvRes_rsR_0 with ⟨T473, F_recvRes_rsR_0⟩
  rw [owed_step_92 c]
  rw [wp_bind]
  iapply (part35_spec' m K c _ (owedAfter c 93) (mayWait_rsR0 (F := F) c 1) (((((((((((((((((((((((((((((insert (SemLoc.reg barS, ()) (W)))))))))))))))))))))))))))))))
  isplitl [T470]
  · iexact T470
  isplitl [T471]
  · iexact T471
  isplitl [T472]
  · iexact T472
  isplitl [T473]
  · iexact T473
  isplitl []
  · iexact Hlev
  isplitl [H_owes]
  · iexact H_owes
  iintro %r ⟨P474, P475, P476, H_owes⟩
  try dsimp only
  ihave F_recvRes_rsS_1 := (bigSepL_snoc (fun k : Fin 32 => recvRes m K rsS c 1 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_recvRes_rsS_1 P474]
  · isplitl [F_recvRes_rsS_1] <;> iassumption
  ihave F_got_rsR_0 := (bigSepL_snoc (fun k : Fin 32 => gotRsR m c 0 k) [0] 1 [0, 1] rfl) $$ [F_got_rsR_0 P475]
  · isplitl [F_got_rsR_0] <;> iassumption
  ihave F_closed_rsR_0 := (bigSepL_wrap (fun k : Fin 32 => closedAt m K c 0 k rsR) 1) $$ P476
  -- k0_part36
  icases (bigSepL_pop (fun k : Fin 32 => recvRes m K rsR c 0 k) 2 3 [4, 5, 6, 7, 8, 9, 10, 11, 12, 13, 14, 15, 16, 17, 18, 19, 20, 21, 22, 23, 24, 25, 26, 27, 28, 29, 30, 31]) $$ F_recvRes_rsR_0 with ⟨T477, F_recvRes_rsR_0⟩
  icases (bigSepL_pop (fun k : Fin 32 => recvRes m K rsR c 0 k) 3 4 [5, 6, 7, 8, 9, 10, 11, 12, 13, 14, 15, 16, 17, 18, 19, 20, 21, 22, 23, 24, 25, 26, 27, 28, 29, 30, 31]) $$ F_recvRes_rsR_0 with ⟨T478, F_recvRes_rsR_0⟩
  rw [wp_bind]
  iapply (part36_spec' m K c _ (insert (SemLoc.dma (semAt (arr rsR) 0 1), ()) ((((((((((((((((((((((((((((((insert (SemLoc.reg barS, ()) (W)))))))))))))))))))))))))))))))))
  isplitl [T477]
  · iexact T477
  isplitl [T478]
  · iexact T478
  isplitl []
  · iexact Hlev
  isplitl [H_owes]
  · iexact H_owes
  iintro %r ⟨P479, P480, P481, P482, H_owes⟩
  try dsimp only
  ihave F_got_rsR_0 := (bigSepL_snoc (fun k : Fin 32 => gotRsR m c 0 k) [0, 1] 2 [0, 1, 2] rfl) $$ [F_got_rsR_0 P479]
  · isplitl [F_got_rsR_0] <;> iassumption
  ihave F_closed_rsR_0 := (bigSepL_snoc (fun k : Fin 32 => closedAt m K c 0 k rsR) [1] 2 [1, 2] rfl) $$ [F_closed_rsR_0 P480]
  · isplitl [F_closed_rsR_0] <;> iassumption
  ihave F_got_rsR_0 := (bigSepL_snoc (fun k : Fin 32 => gotRsR m c 0 k) [0, 1, 2] 3 [0, 1, 2, 3] rfl) $$ [F_got_rsR_0 P481]
  · isplitl [F_got_rsR_0] <;> iassumption
  ihave F_closed_rsR_0 := (bigSepL_snoc (fun k : Fin 32 => closedAt m K c 0 k rsR) [1, 2] 3 [1, 2, 3] rfl) $$ [F_closed_rsR_0 P482]
  · isplitl [F_closed_rsR_0] <;> iassumption
  -- k0_part37
  icases (bigSepL_pop (fun k : Fin 32 => recvRes m K rsR c 0 k) 4 5 [6, 7, 8, 9, 10, 11, 12, 13, 14, 15, 16, 17, 18, 19, 20, 21, 22, 23, 24, 25, 26, 27, 28, 29, 30, 31]) $$ F_recvRes_rsR_0 with ⟨T483, F_recvRes_rsR_0⟩
  icases (bigSepL_pop (fun k : Fin 32 => recvRes m K rsR c 0 k) 5 6 [7, 8, 9, 10, 11, 12, 13, 14, 15, 16, 17, 18, 19, 20, 21, 22, 23, 24, 25, 26, 27, 28, 29, 30, 31]) $$ F_recvRes_rsR_0 with ⟨T484, F_recvRes_rsR_0⟩
  rw [wp_bind]
  iapply (part37_spec' m K c _ (insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))
  isplitl [T483]
  · iexact T483
  isplitl [T484]
  · iexact T484
  isplitl []
  · iexact Hlev
  isplitl [H_owes]
  · iexact H_owes
  iintro %r ⟨P485, P486, P487, P488, H_owes⟩
  try dsimp only
  ihave F_got_rsR_0 := (bigSepL_snoc (fun k : Fin 32 => gotRsR m c 0 k) [0, 1, 2, 3] 4 [0, 1, 2, 3, 4] rfl) $$ [F_got_rsR_0 P485]
  · isplitl [F_got_rsR_0] <;> iassumption
  ihave F_closed_rsR_0 := (bigSepL_snoc (fun k : Fin 32 => closedAt m K c 0 k rsR) [1, 2, 3] 4 [1, 2, 3, 4] rfl) $$ [F_closed_rsR_0 P486]
  · isplitl [F_closed_rsR_0] <;> iassumption
  ihave F_got_rsR_0 := (bigSepL_snoc (fun k : Fin 32 => gotRsR m c 0 k) [0, 1, 2, 3, 4] 5 [0, 1, 2, 3, 4, 5] rfl) $$ [F_got_rsR_0 P487]
  · isplitl [F_got_rsR_0] <;> iassumption
  ihave F_closed_rsR_0 := (bigSepL_snoc (fun k : Fin 32 => closedAt m K c 0 k rsR) [1, 2, 3, 4] 5 [1, 2, 3, 4, 5] rfl) $$ [F_closed_rsR_0 P488]
  · isplitl [F_closed_rsR_0] <;> iassumption
  -- k0_part38
  icases (bigSepL_pop (fun k : Fin 32 => recvRes m K rsR c 0 k) 6 7 [8, 9, 10, 11, 12, 13, 14, 15, 16, 17, 18, 19, 20, 21, 22, 23, 24, 25, 26, 27, 28, 29, 30, 31]) $$ F_recvRes_rsR_0 with ⟨T489, F_recvRes_rsR_0⟩
  icases (bigSepL_pop (fun k : Fin 32 => recvRes m K rsR c 0 k) 7 8 [9, 10, 11, 12, 13, 14, 15, 16, 17, 18, 19, 20, 21, 22, 23, 24, 25, 26, 27, 28, 29, 30, 31]) $$ F_recvRes_rsR_0 with ⟨T490, F_recvRes_rsR_0⟩
  rw [wp_bind]
  iapply (part38_spec' m K c _ (insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))
  isplitl [T489]
  · iexact T489
  isplitl [T490]
  · iexact T490
  isplitl []
  · iexact Hlev
  isplitl [H_owes]
  · iexact H_owes
  iintro %r ⟨P491, P492, P493, P494, H_owes⟩
  try dsimp only
  ihave F_got_rsR_0 := (bigSepL_snoc (fun k : Fin 32 => gotRsR m c 0 k) [0, 1, 2, 3, 4, 5] 6 [0, 1, 2, 3, 4, 5, 6] rfl) $$ [F_got_rsR_0 P491]
  · isplitl [F_got_rsR_0] <;> iassumption
  ihave F_closed_rsR_0 := (bigSepL_snoc (fun k : Fin 32 => closedAt m K c 0 k rsR) [1, 2, 3, 4, 5] 6 [1, 2, 3, 4, 5, 6] rfl) $$ [F_closed_rsR_0 P492]
  · isplitl [F_closed_rsR_0] <;> iassumption
  ihave F_got_rsR_0 := (bigSepL_snoc (fun k : Fin 32 => gotRsR m c 0 k) [0, 1, 2, 3, 4, 5, 6] 7 [0, 1, 2, 3, 4, 5, 6, 7] rfl) $$ [F_got_rsR_0 P493]
  · isplitl [F_got_rsR_0] <;> iassumption
  ihave F_closed_rsR_0 := (bigSepL_snoc (fun k : Fin 32 => closedAt m K c 0 k rsR) [1, 2, 3, 4, 5, 6] 7 [1, 2, 3, 4, 5, 6, 7] rfl) $$ [F_closed_rsR_0 P494]
  · isplitl [F_closed_rsR_0] <;> iassumption
  -- k0_part39
  icases (bigSepL_pop (fun k : Fin 32 => recvRes m K rsR c 0 k) 8 9 [10, 11, 12, 13, 14, 15, 16, 17, 18, 19, 20, 21, 22, 23, 24, 25, 26, 27, 28, 29, 30, 31]) $$ F_recvRes_rsR_0 with ⟨T495, F_recvRes_rsR_0⟩
  icases (bigSepL_pop (fun k : Fin 32 => recvRes m K rsR c 0 k) 9 10 [11, 12, 13, 14, 15, 16, 17, 18, 19, 20, 21, 22, 23, 24, 25, 26, 27, 28, 29, 30, 31]) $$ F_recvRes_rsR_0 with ⟨T496, F_recvRes_rsR_0⟩
  icases (bigSepL_pop (fun k : Fin 32 => recvRes m K rsR c 0 k) 10 11 [12, 13, 14, 15, 16, 17, 18, 19, 20, 21, 22, 23, 24, 25, 26, 27, 28, 29, 30, 31]) $$ F_recvRes_rsR_0 with ⟨T497, F_recvRes_rsR_0⟩
  rw [wp_bind]
  iapply (part39_spec' m K c _ (insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))
  isplitl [T495]
  · iexact T495
  isplitl [T496]
  · iexact T496
  isplitl [T497]
  · iexact T497
  isplitl []
  · iexact Hlev
  isplitl [H_owes]
  · iexact H_owes
  iintro %r ⟨P498, P499, P500, P501, P502, P503, H_owes⟩
  try dsimp only
  ihave F_got_rsR_0 := (bigSepL_snoc (fun k : Fin 32 => gotRsR m c 0 k) [0, 1, 2, 3, 4, 5, 6, 7] 8 [0, 1, 2, 3, 4, 5, 6, 7, 8] rfl) $$ [F_got_rsR_0 P498]
  · isplitl [F_got_rsR_0] <;> iassumption
  ihave F_closed_rsR_0 := (bigSepL_snoc (fun k : Fin 32 => closedAt m K c 0 k rsR) [1, 2, 3, 4, 5, 6, 7] 8 [1, 2, 3, 4, 5, 6, 7, 8] rfl) $$ [F_closed_rsR_0 P499]
  · isplitl [F_closed_rsR_0] <;> iassumption
  ihave F_got_rsR_0 := (bigSepL_snoc (fun k : Fin 32 => gotRsR m c 0 k) [0, 1, 2, 3, 4, 5, 6, 7, 8] 9 [0, 1, 2, 3, 4, 5, 6, 7, 8, 9] rfl) $$ [F_got_rsR_0 P500]
  · isplitl [F_got_rsR_0] <;> iassumption
  ihave F_closed_rsR_0 := (bigSepL_snoc (fun k : Fin 32 => closedAt m K c 0 k rsR) [1, 2, 3, 4, 5, 6, 7, 8] 9 [1, 2, 3, 4, 5, 6, 7, 8, 9] rfl) $$ [F_closed_rsR_0 P501]
  · isplitl [F_closed_rsR_0] <;> iassumption
  ihave F_got_rsR_0 := (bigSepL_snoc (fun k : Fin 32 => gotRsR m c 0 k) [0, 1, 2, 3, 4, 5, 6, 7, 8, 9] 10 [0, 1, 2, 3, 4, 5, 6, 7, 8, 9, 10] rfl) $$ [F_got_rsR_0 P502]
  · isplitl [F_got_rsR_0] <;> iassumption
  ihave F_closed_rsR_0 := (bigSepL_snoc (fun k : Fin 32 => closedAt m K c 0 k rsR) [1, 2, 3, 4, 5, 6, 7, 8, 9] 10 [1, 2, 3, 4, 5, 6, 7, 8, 9, 10] rfl) $$ [F_closed_rsR_0 P503]
  · isplitl [F_closed_rsR_0] <;> iassumption
  -- k0_part40
  icases (bigSepL_pop (fun k : Fin 32 => recvRes m K rsR c 0 k) 11 12 [13, 14, 15, 16, 17, 18, 19, 20, 21, 22, 23, 24, 25, 26, 27, 28, 29, 30, 31]) $$ F_recvRes_rsR_0 with ⟨T504, F_recvRes_rsR_0⟩
  icases (bigSepL_pop (fun k : Fin 32 => recvRes m K rsR c 0 k) 12 13 [14, 15, 16, 17, 18, 19, 20, 21, 22, 23, 24, 25, 26, 27, 28, 29, 30, 31]) $$ F_recvRes_rsR_0 with ⟨T505, F_recvRes_rsR_0⟩
  rw [wp_bind]
  iapply (part40_spec' m K c _ (insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))
  isplitl [T504]
  · iexact T504
  isplitl [T505]
  · iexact T505
  isplitl []
  · iexact Hlev
  isplitl [H_owes]
  · iexact H_owes
  iintro %v1034 ⟨P506, P507, P508, P509, H_owes⟩
  try dsimp only
  ihave F_got_rsR_0 := (bigSepL_snoc (fun k : Fin 32 => gotRsR m c 0 k) [0, 1, 2, 3, 4, 5, 6, 7, 8, 9, 10] 11 [0, 1, 2, 3, 4, 5, 6, 7, 8, 9, 10, 11] rfl) $$ [F_got_rsR_0 P506]
  · isplitl [F_got_rsR_0] <;> iassumption
  ihave F_closed_rsR_0 := (bigSepL_snoc (fun k : Fin 32 => closedAt m K c 0 k rsR) [1, 2, 3, 4, 5, 6, 7, 8, 9, 10] 11 [1, 2, 3, 4, 5, 6, 7, 8, 9, 10, 11] rfl) $$ [F_closed_rsR_0 P507]
  · isplitl [F_closed_rsR_0] <;> iassumption
  ihave F_got_rsR_0 := (bigSepL_snoc (fun k : Fin 32 => gotRsR m c 0 k) [0, 1, 2, 3, 4, 5, 6, 7, 8, 9, 10, 11] 12 [0, 1, 2, 3, 4, 5, 6, 7, 8, 9, 10, 11, 12] rfl) $$ [F_got_rsR_0 P508]
  · isplitl [F_got_rsR_0] <;> iassumption
  ihave F_closed_rsR_0 := (bigSepL_snoc (fun k : Fin 32 => closedAt m K c 0 k rsR) [1, 2, 3, 4, 5, 6, 7, 8, 9, 10, 11] 12 [1, 2, 3, 4, 5, 6, 7, 8, 9, 10, 11, 12] rfl) $$ [F_closed_rsR_0 P509]
  · isplitl [F_closed_rsR_0] <;> iassumption
  -- k0_part41
  icases (bigSepL_pop (fun k : Fin 32 => recvRes m K rsR c 0 k) 13 14 [15, 16, 17, 18, 19, 20, 21, 22, 23, 24, 25, 26, 27, 28, 29, 30, 31]) $$ F_recvRes_rsR_0 with ⟨T510, F_recvRes_rsR_0⟩
  icases (bigSepL_pop (fun k : Fin 32 => recvRes m K rsR c 0 k) 14 15 [16, 17, 18, 19, 20, 21, 22, 23, 24, 25, 26, 27, 28, 29, 30, 31]) $$ F_recvRes_rsR_0 with ⟨T511, F_recvRes_rsR_0⟩
  rw [wp_bind]
  iapply (part41_spec' m K c _ _ (insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))
  isplitl [T510]
  · iexact T510
  isplitl [T511]
  · iexact T511
  isplitl []
  · iexact Hlev
  isplitl [H_owes]
  · iexact H_owes
  iintro %v1057 ⟨P512, P513, P514, P515, H_owes⟩
  try dsimp only
  ihave F_got_rsR_0 := (bigSepL_snoc (fun k : Fin 32 => gotRsR m c 0 k) [0, 1, 2, 3, 4, 5, 6, 7, 8, 9, 10, 11, 12] 13 [0, 1, 2, 3, 4, 5, 6, 7, 8, 9, 10, 11, 12, 13] rfl) $$ [F_got_rsR_0 P512]
  · isplitl [F_got_rsR_0] <;> iassumption
  ihave F_closed_rsR_0 := (bigSepL_snoc (fun k : Fin 32 => closedAt m K c 0 k rsR) [1, 2, 3, 4, 5, 6, 7, 8, 9, 10, 11, 12] 13 [1, 2, 3, 4, 5, 6, 7, 8, 9, 10, 11, 12, 13] rfl) $$ [F_closed_rsR_0 P513]
  · isplitl [F_closed_rsR_0] <;> iassumption
  ihave F_got_rsR_0 := (bigSepL_snoc (fun k : Fin 32 => gotRsR m c 0 k) [0, 1, 2, 3, 4, 5, 6, 7, 8, 9, 10, 11, 12, 13] 14 [0, 1, 2, 3, 4, 5, 6, 7, 8, 9, 10, 11, 12, 13, 14] rfl) $$ [F_got_rsR_0 P514]
  · isplitl [F_got_rsR_0] <;> iassumption
  ihave F_closed_rsR_0 := (bigSepL_snoc (fun k : Fin 32 => closedAt m K c 0 k rsR) [1, 2, 3, 4, 5, 6, 7, 8, 9, 10, 11, 12, 13] 14 [1, 2, 3, 4, 5, 6, 7, 8, 9, 10, 11, 12, 13, 14] rfl) $$ [F_closed_rsR_0 P515]
  · isplitl [F_closed_rsR_0] <;> iassumption
  -- k0_part42
  icases (bigSepL_pop (fun k : Fin 32 => recvRes m K rsR c 0 k) 15 16 [17, 18, 19, 20, 21, 22, 23, 24, 25, 26, 27, 28, 29, 30, 31]) $$ F_recvRes_rsR_0 with ⟨T516, F_recvRes_rsR_0⟩
  icases (bigSepL_pop (fun k : Fin 32 => recvRes m K rsR c 0 k) 16 17 [18, 19, 20, 21, 22, 23, 24, 25, 26, 27, 28, 29, 30, 31]) $$ F_recvRes_rsR_0 with ⟨T517, F_recvRes_rsR_0⟩
  rw [wp_bind]
  iapply (part42_spec' m K c _ _ (insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))
  isplitl [T516]
  · iexact T516
  isplitl [T517]
  · iexact T517
  isplitl []
  · iexact Hlev
  isplitl [H_owes]
  · iexact H_owes
  iintro %v1080 ⟨P518, P519, P520, P521, H_owes⟩
  try dsimp only
  ihave F_got_rsR_0 := (bigSepL_snoc (fun k : Fin 32 => gotRsR m c 0 k) [0, 1, 2, 3, 4, 5, 6, 7, 8, 9, 10, 11, 12, 13, 14] 15 [0, 1, 2, 3, 4, 5, 6, 7, 8, 9, 10, 11, 12, 13, 14, 15] rfl) $$ [F_got_rsR_0 P518]
  · isplitl [F_got_rsR_0] <;> iassumption
  ihave F_closed_rsR_0 := (bigSepL_snoc (fun k : Fin 32 => closedAt m K c 0 k rsR) [1, 2, 3, 4, 5, 6, 7, 8, 9, 10, 11, 12, 13, 14] 15 [1, 2, 3, 4, 5, 6, 7, 8, 9, 10, 11, 12, 13, 14, 15] rfl) $$ [F_closed_rsR_0 P519]
  · isplitl [F_closed_rsR_0] <;> iassumption
  ihave F_got_rsR_0 := (bigSepL_snoc (fun k : Fin 32 => gotRsR m c 0 k) [0, 1, 2, 3, 4, 5, 6, 7, 8, 9, 10, 11, 12, 13, 14, 15] 16 [0, 1, 2, 3, 4, 5, 6, 7, 8, 9, 10, 11, 12, 13, 14, 15, 16] rfl) $$ [F_got_rsR_0 P520]
  · isplitl [F_got_rsR_0] <;> iassumption
  ihave F_closed_rsR_0 := (bigSepL_snoc (fun k : Fin 32 => closedAt m K c 0 k rsR) [1, 2, 3, 4, 5, 6, 7, 8, 9, 10, 11, 12, 13, 14, 15] 16 [1, 2, 3, 4, 5, 6, 7, 8, 9, 10, 11, 12, 13, 14, 15, 16] rfl) $$ [F_closed_rsR_0 P521]
  · isplitl [F_closed_rsR_0] <;> iassumption
  -- k0_part43
  icases (bigSepL_pop (fun k : Fin 32 => recvRes m K rsR c 0 k) 17 18 [19, 20, 21, 22, 23, 24, 25, 26, 27, 28, 29, 30, 31]) $$ F_recvRes_rsR_0 with ⟨T522, F_recvRes_rsR_0⟩
  icases (bigSepL_pop (fun k : Fin 32 => recvRes m K rsR c 0 k) 18 19 [20, 21, 22, 23, 24, 25, 26, 27, 28, 29, 30, 31]) $$ F_recvRes_rsR_0 with ⟨T523, F_recvRes_rsR_0⟩
  rw [wp_bind]
  iapply (part43_spec' m K c _ _ (insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))
  isplitl [T522]
  · iexact T522
  isplitl [T523]
  · iexact T523
  isplitl []
  · iexact Hlev
  isplitl [H_owes]
  · iexact H_owes
  iintro %v1102 ⟨P524, P525, P526, P527, H_owes⟩
  try dsimp only
  ihave F_got_rsR_0 := (bigSepL_snoc (fun k : Fin 32 => gotRsR m c 0 k) [0, 1, 2, 3, 4, 5, 6, 7, 8, 9, 10, 11, 12, 13, 14, 15, 16] 17 [0, 1, 2, 3, 4, 5, 6, 7, 8, 9, 10, 11, 12, 13, 14, 15, 16, 17] rfl) $$ [F_got_rsR_0 P524]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16] 17 [1, 2, 3, 4, 5, 6, 7, 8, 9, 10, 11, 12, 13, 14, 15, 16, 17] rfl) $$ [F_closed_rsR_0 P525]
  · isplitl [F_closed_rsR_0] <;> iassumption
  ihave F_got_rsR_0 := (bigSepL_snoc (fun k : Fin 32 => gotRsR m c 0 k) [0, 1, 2, 3, 4, 5, 6, 7, 8, 9, 10, 11, 12, 13, 14, 15, 16, 17] 18 [0, 1, 2, 3, 4, 5, 6, 7, 8, 9, 10, 11, 12, 13, 14, 15, 16, 17, 18] rfl) $$ [F_got_rsR_0 P526]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17] 18 [1, 2, 3, 4, 5, 6, 7, 8, 9, 10, 11, 12, 13, 14, 15, 16, 17, 18] rfl) $$ [F_closed_rsR_0 P527]
  · isplitl [F_closed_rsR_0] <;> iassumption
  -- k0_part44
  icases (bigSepL_pop (fun k : Fin 32 => recvRes m K rsR c 0 k) 19 20 [21, 22, 23, 24, 25, 26, 27, 28, 29, 30, 31]) $$ F_recvRes_rsR_0 with ⟨T528, F_recvRes_rsR_0⟩
  icases (bigSepL_pop (fun k : Fin 32 => recvRes m K rsR c 0 k) 20 21 [22, 23, 24, 25, 26, 27, 28, 29, 30, 31]) $$ F_recvRes_rsR_0 with ⟨T529, F_recvRes_rsR_0⟩
  rw [wp_bind]
  iapply (part44_spec' m K c _ _ (insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))
  isplitl [T528]
  · iexact T528
  isplitl [T529]
  · iexact T529
  isplitl []
  · iexact Hlev
  isplitl [H_owes]
  · iexact H_owes
  iintro %v1124 ⟨P530, P531, P532, P533, H_owes⟩
  try dsimp only
  ihave F_got_rsR_0 := (bigSepL_snoc (fun k : Fin 32 => gotRsR m c 0 k) [0, 1, 2, 3, 4, 5, 6, 7, 8, 9, 10, 11, 12, 13, 14, 15, 16, 17, 18] 19 [0, 1, 2, 3, 4, 5, 6, 7, 8, 9, 10, 11, 12, 13, 14, 15, 16, 17, 18, 19] rfl) $$ [F_got_rsR_0 P530]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_closed_rsR_0 P531]
  · isplitl [F_closed_rsR_0] <;> iassumption
  ihave F_got_rsR_0 := (bigSepL_snoc (fun k : Fin 32 => gotRsR m c 0 k) [0, 1, 2, 3, 4, 5, 6, 7, 8, 9, 10, 11, 12, 13, 14, 15, 16, 17, 18, 19] 20 [0, 1, 2, 3, 4, 5, 6, 7, 8, 9, 10, 11, 12, 13, 14, 15, 16, 17, 18, 19, 20] rfl) $$ [F_got_rsR_0 P532]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_closed_rsR_0 P533]
  · isplitl [F_closed_rsR_0] <;> iassumption
  -- k0_part45
  icases (bigSepL_pop (fun k : Fin 32 => recvRes m K rsR c 0 k) 21 22 [23, 24, 25, 26, 27, 28, 29, 30, 31]) $$ F_recvRes_rsR_0 with ⟨T534, F_recvRes_rsR_0⟩
  icases (bigSepL_pop (fun k : Fin 32 => recvRes m K rsR c 0 k) 22 23 [24, 25, 26, 27, 28, 29, 30, 31]) $$ F_recvRes_rsR_0 with ⟨T535, F_recvRes_rsR_0⟩
  rw [wp_bind]
  iapply (part45_spec' m K c _ _ (insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))
  isplitl [T534]
  · iexact T534
  isplitl [T535]
  · iexact T535
  isplitl []
  · iexact Hlev
  isplitl [H_owes]
  · iexact H_owes
  iintro %v1146 ⟨P536, P537, P538, P539, H_owes⟩
  try dsimp only
  ihave F_got_rsR_0 := (bigSepL_snoc (fun k : Fin 32 => gotRsR m c 0 k) [0, 1, 2, 3, 4, 5, 6, 7, 8, 9, 10, 11, 12, 13, 14, 15, 16, 17, 18, 19, 20] 21 [0, 1, 2, 3, 4, 5, 6, 7, 8, 9, 10, 11, 12, 13, 14, 15, 16, 17, 18, 19, 20, 21] rfl) $$ [F_got_rsR_0 P536]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_closed_rsR_0 P537]
  · isplitl [F_closed_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21] 22 [0, 1, 2, 3, 4, 5, 6, 7, 8, 9, 10, 11, 12, 13, 14, 15, 16, 17, 18, 19, 20, 21, 22] rfl) $$ [F_got_rsR_0 P538]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_closed_rsR_0 P539]
  · isplitl [F_closed_rsR_0] <;> iassumption
  -- k0_part46
  icases (bigSepL_pop (fun k : Fin 32 => recvRes m K rsR c 0 k) 23 24 [25, 26, 27, 28, 29, 30, 31]) $$ F_recvRes_rsR_0 with ⟨T540, F_recvRes_rsR_0⟩
  icases (bigSepL_pop (fun k : Fin 32 => recvRes m K rsR c 0 k) 24 25 [26, 27, 28, 29, 30, 31]) $$ F_recvRes_rsR_0 with ⟨T541, F_recvRes_rsR_0⟩
  rw [wp_bind]
  iapply (part46_spec' m K c _ _ (insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))
  isplitl [T540]
  · iexact T540
  isplitl [T541]
  · iexact T541
  isplitl []
  · iexact Hlev
  isplitl [H_owes]
  · iexact H_owes
  iintro %v1168 ⟨P542, P543, P544, P545, H_owes⟩
  try dsimp only
  ihave F_got_rsR_0 := (bigSepL_snoc (fun k : Fin 32 => gotRsR m c 0 k) [0, 1, 2, 3, 4, 5, 6, 7, 8, 9, 10, 11, 12, 13, 14, 15, 16, 17, 18, 19, 20, 21, 22] 23 [0, 1, 2, 3, 4, 5, 6, 7, 8, 9, 10, 11, 12, 13, 14, 15, 16, 17, 18, 19, 20, 21, 22, 23] rfl) $$ [F_got_rsR_0 P542]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_closed_rsR_0 P543]
  · isplitl [F_closed_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23] 24 [0, 1, 2, 3, 4, 5, 6, 7, 8, 9, 10, 11, 12, 13, 14, 15, 16, 17, 18, 19, 20, 21, 22, 23, 24] rfl) $$ [F_got_rsR_0 P544]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_closed_rsR_0 P545]
  · isplitl [F_closed_rsR_0] <;> iassumption
  -- k0_part47
  icases (bigSepL_pop (fun k : Fin 32 => recvRes m K rsR c 0 k) 25 26 [27, 28, 29, 30, 31]) $$ F_recvRes_rsR_0 with ⟨T546, F_recvRes_rsR_0⟩
  icases (bigSepL_pop (fun k : Fin 32 => recvRes m K rsR c 0 k) 26 27 [28, 29, 30, 31]) $$ F_recvRes_rsR_0 with ⟨T547, F_recvRes_rsR_0⟩
  rw [wp_bind]
  iapply (part47_spec' m K c _ _ (insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))
  isplitl [T546]
  · iexact T546
  isplitl [T547]
  · iexact T547
  isplitl []
  · iexact Hlev
  isplitl [H_owes]
  · iexact H_owes
  iintro %v1191 ⟨P548, P549, P550, P551, H_owes⟩
  try dsimp only
  ihave F_got_rsR_0 := (bigSepL_snoc (fun k : Fin 32 => gotRsR m c 0 k) [0, 1, 2, 3, 4, 5, 6, 7, 8, 9, 10, 11, 12, 13, 14, 15, 16, 17, 18, 19, 20, 21, 22, 23, 24] 25 [0, 1, 2, 3, 4, 5, 6, 7, 8, 9, 10, 11, 12, 13, 14, 15, 16, 17, 18, 19, 20, 21, 22, 23, 24, 25] rfl) $$ [F_got_rsR_0 P548]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_closed_rsR_0 P549]
  · isplitl [F_closed_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25] 26 [0, 1, 2, 3, 4, 5, 6, 7, 8, 9, 10, 11, 12, 13, 14, 15, 16, 17, 18, 19, 20, 21, 22, 23, 24, 25, 26] rfl) $$ [F_got_rsR_0 P550]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_closed_rsR_0 P551]
  · isplitl [F_closed_rsR_0] <;> iassumption
  -- k0_part48
  icases (bigSepL_pop (fun k : Fin 32 => recvRes m K rsR c 0 k) 27 28 [29, 30, 31]) $$ F_recvRes_rsR_0 with ⟨T552, F_recvRes_rsR_0⟩
  icases (bigSepL_pop (fun k : Fin 32 => recvRes m K rsR c 0 k) 28 29 [30, 31]) $$ F_recvRes_rsR_0 with ⟨T553, F_recvRes_rsR_0⟩
  rw [wp_bind]
  iapply (part48_spec' m K c _ _ (insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))
  isplitl [T552]
  · iexact T552
  isplitl [T553]
  · iexact T553
  isplitl []
  · iexact Hlev
  isplitl [H_owes]
  · iexact H_owes
  iintro %r ⟨P554, P555, P556, P557, H_owes⟩
  try dsimp only
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26] 27 [0, 1, 2, 3, 4, 5, 6, 7, 8, 9, 10, 11, 12, 13, 14, 15, 16, 17, 18, 19, 20, 21, 22, 23, 24, 25, 26, 27] rfl) $$ [F_got_rsR_0 P554]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_closed_rsR_0 P555]
  · isplitl [F_closed_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26, 27] 28 [0, 1, 2, 3, 4, 5, 6, 7, 8, 9, 10, 11, 12, 13, 14, 15, 16, 17, 18, 19, 20, 21, 22, 23, 24, 25, 26, 27, 28] rfl) $$ [F_got_rsR_0 P556]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_closed_rsR_0 P557]
  · isplitl [F_closed_rsR_0] <;> iassumption
  -- k0_part49
  icases (bigSepL_pop (fun k : Fin 32 => recvRes m K rsR c 0 k) 29 30 [31]) $$ F_recvRes_rsR_0 with ⟨T558, F_recvRes_rsR_0⟩
  icases (bigSepL_pop (fun k : Fin 32 => recvRes m K rsR c 0 k) 30 31 []) $$ F_recvRes_rsR_0 with ⟨T559, F_recvRes_rsR_0⟩
  rw [wp_bind]
  iapply (part49_spec' m K c _ (insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))
  isplitl [T558]
  · iexact T558
  isplitl [T559]
  · iexact T559
  isplitl []
  · iexact Hlev
  isplitl [H_owes]
  · iexact H_owes
  iintro %r ⟨P560, P561, P562, P563, H_owes⟩
  try dsimp only
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26, 27, 28] 29 [0, 1, 2, 3, 4, 5, 6, 7, 8, 9, 10, 11, 12, 13, 14, 15, 16, 17, 18, 19, 20, 21, 22, 23, 24, 25, 26, 27, 28, 29] rfl) $$ [F_got_rsR_0 P560]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_closed_rsR_0 P561]
  · isplitl [F_closed_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26, 27, 28, 29] 30 [0, 1, 2, 3, 4, 5, 6, 7, 8, 9, 10, 11, 12, 13, 14, 15, 16, 17, 18, 19, 20, 21, 22, 23, 24, 25, 26, 27, 28, 29, 30] rfl) $$ [F_got_rsR_0 P562]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_closed_rsR_0 P563]
  · isplitl [F_closed_rsR_0] <;> iassumption
  -- k0_part50
  ihave T564 := (bigSepL_one (fun k : Fin 32 => recvRes m K rsR c 0 k) 31) $$ F_recvRes_rsR_0
  icases (bigSepL_pop (fun k : Fin 32 => gotRsR m c 0 k) 0 1 [2, 3, 4, 5, 6, 7, 8, 9, 10, 11, 12, 13, 14, 15, 16, 17, 18, 19, 20, 21, 22, 23, 24, 25, 26, 27, 28, 29, 30]) $$ F_got_rsR_0 with ⟨T565, F_got_rsR_0⟩
  icases (bigSepL_pop (fun k : Fin 32 => gotRsR m c 0 k) 1 2 [3, 4, 5, 6, 7, 8, 9, 10, 11, 12, 13, 14, 15, 16, 17, 18, 19, 20, 21, 22, 23, 24, 25, 26, 27, 28, 29, 30]) $$ F_got_rsR_0 with ⟨T566, F_got_rsR_0⟩
  icases (bigSepL_pop (fun k : Fin 32 => gotRsR m c 0 k) 2 3 [4, 5, 6, 7, 8, 9, 10, 11, 12, 13, 14, 15, 16, 17, 18, 19, 20, 21, 22, 23, 24, 25, 26, 27, 28, 29, 30]) $$ F_got_rsR_0 with ⟨T567, F_got_rsR_0⟩
  icases (bigSepL_pop (fun k : Fin 32 => gotRsR m c 0 k) 3 4 [5, 6, 7, 8, 9, 10, 11, 12, 13, 14, 15, 16, 17, 18, 19, 20, 21, 22, 23, 24, 25, 26, 27, 28, 29, 30]) $$ F_got_rsR_0 with ⟨T568, F_got_rsR_0⟩
  icases (bigSepL_pop (fun k : Fin 32 => gotRsR m c 0 k) 4 5 [6, 7, 8, 9, 10, 11, 12, 13, 14, 15, 16, 17, 18, 19, 20, 21, 22, 23, 24, 25, 26, 27, 28, 29, 30]) $$ F_got_rsR_0 with ⟨T569, F_got_rsR_0⟩
  icases (bigSepL_pop (fun k : Fin 32 => gotRsR m c 0 k) 5 6 [7, 8, 9, 10, 11, 12, 13, 14, 15, 16, 17, 18, 19, 20, 21, 22, 23, 24, 25, 26, 27, 28, 29, 30]) $$ F_got_rsR_0 with ⟨T570, F_got_rsR_0⟩
  icases (bigSepL_pop (fun k : Fin 32 => gotRsR m c 0 k) 6 7 [8, 9, 10, 11, 12, 13, 14, 15, 16, 17, 18, 19, 20, 21, 22, 23, 24, 25, 26, 27, 28, 29, 30]) $$ F_got_rsR_0 with ⟨T571, F_got_rsR_0⟩
  icases (bigSepL_pop (fun k : Fin 32 => gotRsR m c 0 k) 7 8 [9, 10, 11, 12, 13, 14, 15, 16, 17, 18, 19, 20, 21, 22, 23, 24, 25, 26, 27, 28, 29, 30]) $$ F_got_rsR_0 with ⟨T572, F_got_rsR_0⟩
  icases (bigSepL_pop (fun k : Fin 32 => gotRsR m c 0 k) 8 9 [10, 11, 12, 13, 14, 15, 16, 17, 18, 19, 20, 21, 22, 23, 24, 25, 26, 27, 28, 29, 30]) $$ F_got_rsR_0 with ⟨T573, F_got_rsR_0⟩
  icases (bigSepL_pop (fun k : Fin 32 => gotRsR m c 0 k) 9 10 [11, 12, 13, 14, 15, 16, 17, 18, 19, 20, 21, 22, 23, 24, 25, 26, 27, 28, 29, 30]) $$ F_got_rsR_0 with ⟨T574, F_got_rsR_0⟩
  icases (bigSepL_pop (fun k : Fin 32 => gotRsR m c 0 k) 10 11 [12, 13, 14, 15, 16, 17, 18, 19, 20, 21, 22, 23, 24, 25, 26, 27, 28, 29, 30]) $$ F_got_rsR_0 with ⟨T575, F_got_rsR_0⟩
  icases (bigSepL_pop (fun k : Fin 32 => gotRsR m c 0 k) 11 12 [13, 14, 15, 16, 17, 18, 19, 20, 21, 22, 23, 24, 25, 26, 27, 28, 29, 30]) $$ F_got_rsR_0 with ⟨T576, F_got_rsR_0⟩
  icases (bigSepL_pop (fun k : Fin 32 => gotRsR m c 0 k) 12 13 [14, 15, 16, 17, 18, 19, 20, 21, 22, 23, 24, 25, 26, 27, 28, 29, 30]) $$ F_got_rsR_0 with ⟨T577, F_got_rsR_0⟩
  icases (bigSepL_pop (fun k : Fin 32 => gotRsR m c 0 k) 13 14 [15, 16, 17, 18, 19, 20, 21, 22, 23, 24, 25, 26, 27, 28, 29, 30]) $$ F_got_rsR_0 with ⟨T578, F_got_rsR_0⟩
  icases (bigSepL_pop (fun k : Fin 32 => gotRsR m c 0 k) 14 15 [16, 17, 18, 19, 20, 21, 22, 23, 24, 25, 26, 27, 28, 29, 30]) $$ F_got_rsR_0 with ⟨T579, F_got_rsR_0⟩
  icases (bigSepL_pop (fun k : Fin 32 => gotRsR m c 0 k) 15 16 [17, 18, 19, 20, 21, 22, 23, 24, 25, 26, 27, 28, 29, 30]) $$ F_got_rsR_0 with ⟨T580, F_got_rsR_0⟩
  icases (bigSepL_pop (fun k : Fin 32 => gotRsR m c 0 k) 16 17 [18, 19, 20, 21, 22, 23, 24, 25, 26, 27, 28, 29, 30]) $$ F_got_rsR_0 with ⟨T581, F_got_rsR_0⟩
  icases (bigSepL_pop (fun k : Fin 32 => gotRsR m c 0 k) 17 18 [19, 20, 21, 22, 23, 24, 25, 26, 27, 28, 29, 30]) $$ F_got_rsR_0 with ⟨T582, F_got_rsR_0⟩
  icases (bigSepL_pop (fun k : Fin 32 => gotRsR m c 0 k) 18 19 [20, 21, 22, 23, 24, 25, 26, 27, 28, 29, 30]) $$ F_got_rsR_0 with ⟨T583, F_got_rsR_0⟩
  icases (bigSepL_pop (fun k : Fin 32 => gotRsR m c 0 k) 19 20 [21, 22, 23, 24, 25, 26, 27, 28, 29, 30]) $$ F_got_rsR_0 with ⟨T584, F_got_rsR_0⟩
  icases (bigSepL_pop (fun k : Fin 32 => gotRsR m c 0 k) 20 21 [22, 23, 24, 25, 26, 27, 28, 29, 30]) $$ F_got_rsR_0 with ⟨T585, F_got_rsR_0⟩
  icases (bigSepL_pop (fun k : Fin 32 => gotRsR m c 0 k) 21 22 [23, 24, 25, 26, 27, 28, 29, 30]) $$ F_got_rsR_0 with ⟨T586, F_got_rsR_0⟩
  icases (bigSepL_pop (fun k : Fin 32 => gotRsR m c 0 k) 22 23 [24, 25, 26, 27, 28, 29, 30]) $$ F_got_rsR_0 with ⟨T587, F_got_rsR_0⟩
  icases (bigSepL_pop (fun k : Fin 32 => gotRsR m c 0 k) 23 24 [25, 26, 27, 28, 29, 30]) $$ F_got_rsR_0 with ⟨T588, F_got_rsR_0⟩
  icases (bigSepL_pop (fun k : Fin 32 => gotRsR m c 0 k) 24 25 [26, 27, 28, 29, 30]) $$ F_got_rsR_0 with ⟨T589, F_got_rsR_0⟩
  icases (bigSepL_pop (fun k : Fin 32 => gotRsR m c 0 k) 25 26 [27, 28, 29, 30]) $$ F_got_rsR_0 with ⟨T590, F_got_rsR_0⟩
  icases (bigSepL_pop (fun k : Fin 32 => gotRsR m c 0 k) 26 27 [28, 29, 30]) $$ F_got_rsR_0 with ⟨T591, F_got_rsR_0⟩
  icases (bigSepL_pop (fun k : Fin 32 => gotRsR m c 0 k) 27 28 [29, 30]) $$ F_got_rsR_0 with ⟨T592, F_got_rsR_0⟩
  icases (bigSepL_pop (fun k : Fin 32 => gotRsR m c 0 k) 28 29 [30]) $$ F_got_rsR_0 with ⟨T593, F_got_rsR_0⟩
  icases (bigSepL_pop (fun k : Fin 32 => gotRsR m c 0 k) 29 30 []) $$ F_got_rsR_0 with ⟨T594, F_got_rsR_0⟩
  ihave T595 := (bigSepL_one (fun k : Fin 32 => gotRsR m c 0 k) 30) $$ F_got_rsR_0
  ihave T596 := (bigSepL_one (fun k : Fin 32 => outAt c 0 k fo) 0) $$ F_out0_0
  rw [wp_bind]
  iapply (part50_spec' m K c _ fo (insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))
  isplitl [T564]
  · iexact T564
  isplitl []
  · iexact Hlev
  isplitl [T565]
  · iexact T565
  isplitl [T566]
  · iexact T566
  isplitl [T567]
  · iexact T567
  isplitl [T568]
  · iexact T568
  isplitl [T569]
  · iexact T569
  isplitl [T570]
  · iexact T570
  isplitl [T571]
  · iexact T571
  isplitl [T572]
  · iexact T572
  isplitl [T573]
  · iexact T573
  isplitl [T574]
  · iexact T574
  isplitl [T575]
  · iexact T575
  isplitl [T576]
  · iexact T576
  isplitl [T577]
  · iexact T577
  isplitl [T578]
  · iexact T578
  isplitl [T579]
  · iexact T579
  isplitl [T580]
  · iexact T580
  isplitl [T581]
  · iexact T581
  isplitl [T582]
  · iexact T582
  isplitl [T583]
  · iexact T583
  isplitl [T584]
  · iexact T584
  isplitl [T585]
  · iexact T585
  isplitl [T586]
  · iexact T586
  isplitl [T587]
  · iexact T587
  isplitl [T588]
  · iexact T588
  isplitl [T589]
  · iexact T589
  isplitl [T590]
  · iexact T590
  isplitl [T591]
  · iexact T591
  isplitl [T592]
  · iexact T592
  isplitl [T593]
  · iexact T593
  isplitl [T594]
  · iexact T594
  isplitl [T595]
  · iexact T595
  isplitl [T596]
  · iexact T596
  isplitl [H_owes]
  · iexact H_owes
  iintro %r ⟨P597, P598, P599, P600, P601, P602, P603, P604, P605, P606, P607, P608, P609, P610, P611, P612, P613, P614, P615, P616, P617, P618, P619, P620, P621, P622, P623, P624, P625, P626, P627, P628, P629, P630, P631, P632, P633, P634, P635, P636, P637, P638, P639, P640, P641, P642, P643, P644, P645, P646, P647, P648, P649, P650, P651, P652, P653, P654, P655, P656, P657, P658, P659, P660, P661, H_owes⟩
  try dsimp only
  ihave F_got_rsR_0 := (bigSepL_wrap (fun k : Fin 32 => gotRsR m c 0 k) 0) $$ P597
  ihave F_got_rsR_0 := (bigSepL_snoc (fun k : Fin 32 => gotRsR m c 0 k) [0] 1 [0, 1] rfl) $$ [F_got_rsR_0 P598]
  · isplitl [F_got_rsR_0] <;> iassumption
  ihave F_got_rsR_0 := (bigSepL_snoc (fun k : Fin 32 => gotRsR m c 0 k) [0, 1] 2 [0, 1, 2] rfl) $$ [F_got_rsR_0 P599]
  · isplitl [F_got_rsR_0] <;> iassumption
  ihave F_got_rsR_0 := (bigSepL_snoc (fun k : Fin 32 => gotRsR m c 0 k) [0, 1, 2] 3 [0, 1, 2, 3] rfl) $$ [F_got_rsR_0 P600]
  · isplitl [F_got_rsR_0] <;> iassumption
  ihave F_got_rsR_0 := (bigSepL_snoc (fun k : Fin 32 => gotRsR m c 0 k) [0, 1, 2, 3] 4 [0, 1, 2, 3, 4] rfl) $$ [F_got_rsR_0 P601]
  · isplitl [F_got_rsR_0] <;> iassumption
  ihave F_got_rsR_0 := (bigSepL_snoc (fun k : Fin 32 => gotRsR m c 0 k) [0, 1, 2, 3, 4] 5 [0, 1, 2, 3, 4, 5] rfl) $$ [F_got_rsR_0 P602]
  · isplitl [F_got_rsR_0] <;> iassumption
  ihave F_got_rsR_0 := (bigSepL_snoc (fun k : Fin 32 => gotRsR m c 0 k) [0, 1, 2, 3, 4, 5] 6 [0, 1, 2, 3, 4, 5, 6] rfl) $$ [F_got_rsR_0 P603]
  · isplitl [F_got_rsR_0] <;> iassumption
  ihave F_got_rsR_0 := (bigSepL_snoc (fun k : Fin 32 => gotRsR m c 0 k) [0, 1, 2, 3, 4, 5, 6] 7 [0, 1, 2, 3, 4, 5, 6, 7] rfl) $$ [F_got_rsR_0 P604]
  · isplitl [F_got_rsR_0] <;> iassumption
  ihave F_got_rsR_0 := (bigSepL_snoc (fun k : Fin 32 => gotRsR m c 0 k) [0, 1, 2, 3, 4, 5, 6, 7] 8 [0, 1, 2, 3, 4, 5, 6, 7, 8] rfl) $$ [F_got_rsR_0 P605]
  · isplitl [F_got_rsR_0] <;> iassumption
  ihave F_got_rsR_0 := (bigSepL_snoc (fun k : Fin 32 => gotRsR m c 0 k) [0, 1, 2, 3, 4, 5, 6, 7, 8] 9 [0, 1, 2, 3, 4, 5, 6, 7, 8, 9] rfl) $$ [F_got_rsR_0 P606]
  · isplitl [F_got_rsR_0] <;> iassumption
  ihave F_got_rsR_0 := (bigSepL_snoc (fun k : Fin 32 => gotRsR m c 0 k) [0, 1, 2, 3, 4, 5, 6, 7, 8, 9] 10 [0, 1, 2, 3, 4, 5, 6, 7, 8, 9, 10] rfl) $$ [F_got_rsR_0 P607]
  · isplitl [F_got_rsR_0] <;> iassumption
  ihave F_got_rsR_0 := (bigSepL_snoc (fun k : Fin 32 => gotRsR m c 0 k) [0, 1, 2, 3, 4, 5, 6, 7, 8, 9, 10] 11 [0, 1, 2, 3, 4, 5, 6, 7, 8, 9, 10, 11] rfl) $$ [F_got_rsR_0 P608]
  · isplitl [F_got_rsR_0] <;> iassumption
  ihave F_got_rsR_0 := (bigSepL_snoc (fun k : Fin 32 => gotRsR m c 0 k) [0, 1, 2, 3, 4, 5, 6, 7, 8, 9, 10, 11] 12 [0, 1, 2, 3, 4, 5, 6, 7, 8, 9, 10, 11, 12] rfl) $$ [F_got_rsR_0 P609]
  · isplitl [F_got_rsR_0] <;> iassumption
  ihave F_got_rsR_0 := (bigSepL_snoc (fun k : Fin 32 => gotRsR m c 0 k) [0, 1, 2, 3, 4, 5, 6, 7, 8, 9, 10, 11, 12] 13 [0, 1, 2, 3, 4, 5, 6, 7, 8, 9, 10, 11, 12, 13] rfl) $$ [F_got_rsR_0 P610]
  · isplitl [F_got_rsR_0] <;> iassumption
  ihave F_got_rsR_0 := (bigSepL_snoc (fun k : Fin 32 => gotRsR m c 0 k) [0, 1, 2, 3, 4, 5, 6, 7, 8, 9, 10, 11, 12, 13] 14 [0, 1, 2, 3, 4, 5, 6, 7, 8, 9, 10, 11, 12, 13, 14] rfl) $$ [F_got_rsR_0 P611]
  · isplitl [F_got_rsR_0] <;> iassumption
  ihave F_got_rsR_0 := (bigSepL_snoc (fun k : Fin 32 => gotRsR m c 0 k) [0, 1, 2, 3, 4, 5, 6, 7, 8, 9, 10, 11, 12, 13, 14] 15 [0, 1, 2, 3, 4, 5, 6, 7, 8, 9, 10, 11, 12, 13, 14, 15] rfl) $$ [F_got_rsR_0 P612]
  · isplitl [F_got_rsR_0] <;> iassumption
  ihave F_got_rsR_0 := (bigSepL_snoc (fun k : Fin 32 => gotRsR m c 0 k) [0, 1, 2, 3, 4, 5, 6, 7, 8, 9, 10, 11, 12, 13, 14, 15] 16 [0, 1, 2, 3, 4, 5, 6, 7, 8, 9, 10, 11, 12, 13, 14, 15, 16] rfl) $$ [F_got_rsR_0 P613]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16] 17 [0, 1, 2, 3, 4, 5, 6, 7, 8, 9, 10, 11, 12, 13, 14, 15, 16, 17] rfl) $$ [F_got_rsR_0 P614]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17] 18 [0, 1, 2, 3, 4, 5, 6, 7, 8, 9, 10, 11, 12, 13, 14, 15, 16, 17, 18] rfl) $$ [F_got_rsR_0 P615]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18] 19 [0, 1, 2, 3, 4, 5, 6, 7, 8, 9, 10, 11, 12, 13, 14, 15, 16, 17, 18, 19] rfl) $$ [F_got_rsR_0 P616]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19] 20 [0, 1, 2, 3, 4, 5, 6, 7, 8, 9, 10, 11, 12, 13, 14, 15, 16, 17, 18, 19, 20] rfl) $$ [F_got_rsR_0 P617]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20] 21 [0, 1, 2, 3, 4, 5, 6, 7, 8, 9, 10, 11, 12, 13, 14, 15, 16, 17, 18, 19, 20, 21] rfl) $$ [F_got_rsR_0 P618]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21] 22 [0, 1, 2, 3, 4, 5, 6, 7, 8, 9, 10, 11, 12, 13, 14, 15, 16, 17, 18, 19, 20, 21, 22] rfl) $$ [F_got_rsR_0 P619]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22] 23 [0, 1, 2, 3, 4, 5, 6, 7, 8, 9, 10, 11, 12, 13, 14, 15, 16, 17, 18, 19, 20, 21, 22, 23] rfl) $$ [F_got_rsR_0 P620]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23] 24 [0, 1, 2, 3, 4, 5, 6, 7, 8, 9, 10, 11, 12, 13, 14, 15, 16, 17, 18, 19, 20, 21, 22, 23, 24] rfl) $$ [F_got_rsR_0 P621]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24] 25 [0, 1, 2, 3, 4, 5, 6, 7, 8, 9, 10, 11, 12, 13, 14, 15, 16, 17, 18, 19, 20, 21, 22, 23, 24, 25] rfl) $$ [F_got_rsR_0 P622]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25] 26 [0, 1, 2, 3, 4, 5, 6, 7, 8, 9, 10, 11, 12, 13, 14, 15, 16, 17, 18, 19, 20, 21, 22, 23, 24, 25, 26] rfl) $$ [F_got_rsR_0 P623]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26] 27 [0, 1, 2, 3, 4, 5, 6, 7, 8, 9, 10, 11, 12, 13, 14, 15, 16, 17, 18, 19, 20, 21, 22, 23, 24, 25, 26, 27] rfl) $$ [F_got_rsR_0 P624]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26, 27] 28 [0, 1, 2, 3, 4, 5, 6, 7, 8, 9, 10, 11, 12, 13, 14, 15, 16, 17, 18, 19, 20, 21, 22, 23, 24, 25, 26, 27, 28] rfl) $$ [F_got_rsR_0 P625]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26, 27, 28] 29 [0, 1, 2, 3, 4, 5, 6, 7, 8, 9, 10, 11, 12, 13, 14, 15, 16, 17, 18, 19, 20, 21, 22, 23, 24, 25, 26, 27, 28, 29] rfl) $$ [F_got_rsR_0 P626]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26, 27, 28, 29] 30 [0, 1, 2, 3, 4, 5, 6, 7, 8, 9, 10, 11, 12, 13, 14, 15, 16, 17, 18, 19, 20, 21, 22, 23, 24, 25, 26, 27, 28, 29, 30] rfl) $$ [F_got_rsR_0 P627]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26, 27, 28, 29, 30] 31 [0, 1, 2, 3, 4, 5, 6, 7, 8, 9, 10, 11, 12, 13, 14, 15, 16, 17, 18, 19, 20, 21, 22, 23, 24, 25, 26, 27, 28, 29, 30, 31] rfl) $$ [F_got_rsR_0 P628]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_closed_rsR_0 P629]
  · isplitl [F_closed_rsR_0] <;> iassumption
  ihave F_outShare0_0 := (bigSepL_wrap (fun k : Fin 32 => outShareAt m c 0 k) 0) $$ P630
  ihave F_outShare_0 := (bigSepL_wrap (fun k : Fin 32 => outShareAt m c 0 k) 1) $$ P631
  ihave F_outShare_0 := (bigSepL_snoc (fun k : Fin 32 => outShareAt m c 0 k) [1] 2 [1, 2] rfl) $$ [F_outShare_0 P632]
  · isplitl [F_outShare_0] <;> iassumption
  ihave F_outShare_0 := (bigSepL_snoc (fun k : Fin 32 => outShareAt m c 0 k) [1, 2] 3 [1, 2, 3] rfl) $$ [F_outShare_0 P633]
  · isplitl [F_outShare_0] <;> iassumption
  ihave F_outShare_0 := (bigSepL_snoc (fun k : Fin 32 => outShareAt m c 0 k) [1, 2, 3] 4 [1, 2, 3, 4] rfl) $$ [F_outShare_0 P634]
  · isplitl [F_outShare_0] <;> iassumption
  ihave F_outShare_0 := (bigSepL_snoc (fun k : Fin 32 => outShareAt m c 0 k) [1, 2, 3, 4] 5 [1, 2, 3, 4, 5] rfl) $$ [F_outShare_0 P635]
  · isplitl [F_outShare_0] <;> iassumption
  ihave F_outShare_0 := (bigSepL_snoc (fun k : Fin 32 => outShareAt m c 0 k) [1, 2, 3, 4, 5] 6 [1, 2, 3, 4, 5, 6] rfl) $$ [F_outShare_0 P636]
  · isplitl [F_outShare_0] <;> iassumption
  ihave F_outShare_0 := (bigSepL_snoc (fun k : Fin 32 => outShareAt m c 0 k) [1, 2, 3, 4, 5, 6] 7 [1, 2, 3, 4, 5, 6, 7] rfl) $$ [F_outShare_0 P637]
  · isplitl [F_outShare_0] <;> iassumption
  ihave F_outShare_0 := (bigSepL_snoc (fun k : Fin 32 => outShareAt m c 0 k) [1, 2, 3, 4, 5, 6, 7] 8 [1, 2, 3, 4, 5, 6, 7, 8] rfl) $$ [F_outShare_0 P638]
  · isplitl [F_outShare_0] <;> iassumption
  ihave F_outShare_0 := (bigSepL_snoc (fun k : Fin 32 => outShareAt m c 0 k) [1, 2, 3, 4, 5, 6, 7, 8] 9 [1, 2, 3, 4, 5, 6, 7, 8, 9] rfl) $$ [F_outShare_0 P639]
  · isplitl [F_outShare_0] <;> iassumption
  ihave F_outShare_0 := (bigSepL_snoc (fun k : Fin 32 => outShareAt m c 0 k) [1, 2, 3, 4, 5, 6, 7, 8, 9] 10 [1, 2, 3, 4, 5, 6, 7, 8, 9, 10] rfl) $$ [F_outShare_0 P640]
  · isplitl [F_outShare_0] <;> iassumption
  ihave F_outShare_0 := (bigSepL_snoc (fun k : Fin 32 => outShareAt m c 0 k) [1, 2, 3, 4, 5, 6, 7, 8, 9, 10] 11 [1, 2, 3, 4, 5, 6, 7, 8, 9, 10, 11] rfl) $$ [F_outShare_0 P641]
  · isplitl [F_outShare_0] <;> iassumption
  ihave F_outShare_0 := (bigSepL_snoc (fun k : Fin 32 => outShareAt m c 0 k) [1, 2, 3, 4, 5, 6, 7, 8, 9, 10, 11] 12 [1, 2, 3, 4, 5, 6, 7, 8, 9, 10, 11, 12] rfl) $$ [F_outShare_0 P642]
  · isplitl [F_outShare_0] <;> iassumption
  ihave F_outShare_0 := (bigSepL_snoc (fun k : Fin 32 => outShareAt m c 0 k) [1, 2, 3, 4, 5, 6, 7, 8, 9, 10, 11, 12] 13 [1, 2, 3, 4, 5, 6, 7, 8, 9, 10, 11, 12, 13] rfl) $$ [F_outShare_0 P643]
  · isplitl [F_outShare_0] <;> iassumption
  ihave F_outShare_0 := (bigSepL_snoc (fun k : Fin 32 => outShareAt m c 0 k) [1, 2, 3, 4, 5, 6, 7, 8, 9, 10, 11, 12, 13] 14 [1, 2, 3, 4, 5, 6, 7, 8, 9, 10, 11, 12, 13, 14] rfl) $$ [F_outShare_0 P644]
  · isplitl [F_outShare_0] <;> iassumption
  ihave F_outShare_0 := (bigSepL_snoc (fun k : Fin 32 => outShareAt m c 0 k) [1, 2, 3, 4, 5, 6, 7, 8, 9, 10, 11, 12, 13, 14] 15 [1, 2, 3, 4, 5, 6, 7, 8, 9, 10, 11, 12, 13, 14, 15] rfl) $$ [F_outShare_0 P645]
  · isplitl [F_outShare_0] <;> iassumption
  ihave F_outShare_0 := (bigSepL_snoc (fun k : Fin 32 => outShareAt m c 0 k) [1, 2, 3, 4, 5, 6, 7, 8, 9, 10, 11, 12, 13, 14, 15] 16 [1, 2, 3, 4, 5, 6, 7, 8, 9, 10, 11, 12, 13, 14, 15, 16] rfl) $$ [F_outShare_0 P646]
  · isplitl [F_outShare_0] <;> iassumption
  ihave F_outShare_0 := (bigSepL_snoc (fun k : Fin 32 => outShareAt m c 0 k) [1, 2, 3, 4, 5, 6, 7, 8, 9, 10, 11, 12, 13, 14, 15, 16] 17 [1, 2, 3, 4, 5, 6, 7, 8, 9, 10, 11, 12, 13, 14, 15, 16, 17] rfl) $$ [F_outShare_0 P647]
  · isplitl [F_outShare_0] <;> iassumption
  ihave F_outShare_0 := (bigSepL_snoc (fun k : Fin 32 => outShareAt m c 0 k) [1, 2, 3, 4, 5, 6, 7, 8, 9, 10, 11, 12, 13, 14, 15, 16, 17] 18 [1, 2, 3, 4, 5, 6, 7, 8, 9, 10, 11, 12, 13, 14, 15, 16, 17, 18] rfl) $$ [F_outShare_0 P648]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_outShare_0 P649]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_outShare_0 P650]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_outShare_0 P651]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_outShare_0 P652]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_outShare_0 P653]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_outShare_0 P654]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_outShare_0 P655]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_outShare_0 P656]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_outShare_0 P657]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_outShare_0 P658]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_outShare_0 P659]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_outShare_0 P660]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_outShare_0 P661]
  · isplitl [F_outShare_0] <;> iassumption
  -- k0_part51
  icases (bigSepL_pop (fun k : Fin 32 => copyRes m K agS agR c 0 k) 1 2 [3, 4, 5, 6, 7, 8, 9, 10, 11, 12, 13, 14, 15, 16, 17, 18, 19, 20, 21, 22, 23, 24, 25, 26, 27, 28, 29, 30, 31]) $$ F_copyRes_agS_0 with ⟨T662, F_copyRes_agS_0⟩
  icases (bigSepL_pop (fun k : Fin 32 => outShareAt m c 0 k) 1 2 [3, 4, 5, 6, 7, 8, 9, 10, 11, 12, 13, 14, 15, 16, 17, 18, 19, 20, 21, 22, 23, 24, 25, 26, 27, 28, 29, 30, 31]) $$ F_outShare_0 with ⟨T663, F_outShare_0⟩
  icases (bigSepL_pop (fun k : Fin 32 => peerOutAt c 0 k) 1 2 [3, 4, 5, 6, 7, 8, 9, 10, 11, 12, 13, 14, 15, 16, 17, 18, 19, 20, 21, 22, 23, 24, 25, 26, 27, 28, 29, 30, 31]) $$ F_peerOut_0 with ⟨T664, F_peerOut_0⟩
  icases (bigSepL_pop (fun k : Fin 32 => copyRes m K agS agR c 0 k) 2 3 [4, 5, 6, 7, 8, 9, 10, 11, 12, 13, 14, 15, 16, 17, 18, 19, 20, 21, 22, 23, 24, 25, 26, 27, 28, 29, 30, 31]) $$ F_copyRes_agS_0 with ⟨T665, F_copyRes_agS_0⟩
  icases (bigSepL_pop (fun k : Fin 32 => outShareAt m c 0 k) 2 3 [4, 5, 6, 7, 8, 9, 10, 11, 12, 13, 14, 15, 16, 17, 18, 19, 20, 21, 22, 23, 24, 25, 26, 27, 28, 29, 30, 31]) $$ F_outShare_0 with ⟨T666, F_outShare_0⟩
  icases (bigSepL_pop (fun k : Fin 32 => peerOutAt c 0 k) 2 3 [4, 5, 6, 7, 8, 9, 10, 11, 12, 13, 14, 15, 16, 17, 18, 19, 20, 21, 22, 23, 24, 25, 26, 27, 28, 29, 30, 31]) $$ F_peerOut_0 with ⟨T667, F_peerOut_0⟩
  icases (bigSepL_pop (fun k : Fin 32 => copyRes m K agS agR c 0 k) 3 4 [5, 6, 7, 8, 9, 10, 11, 12, 13, 14, 15, 16, 17, 18, 19, 20, 21, 22, 23, 24, 25, 26, 27, 28, 29, 30, 31]) $$ F_copyRes_agS_0 with ⟨T668, F_copyRes_agS_0⟩
  icases (bigSepL_pop (fun k : Fin 32 => outShareAt m c 0 k) 3 4 [5, 6, 7, 8, 9, 10, 11, 12, 13, 14, 15, 16, 17, 18, 19, 20, 21, 22, 23, 24, 25, 26, 27, 28, 29, 30, 31]) $$ F_outShare_0 with ⟨T669, F_outShare_0⟩
  icases (bigSepL_pop (fun k : Fin 32 => peerOutAt c 0 k) 3 4 [5, 6, 7, 8, 9, 10, 11, 12, 13, 14, 15, 16, 17, 18, 19, 20, 21, 22, 23, 24, 25, 26, 27, 28, 29, 30, 31]) $$ F_peerOut_0 with ⟨T670, F_peerOut_0⟩
  rw [owed_step_93 c, owed_step_94 c, owed_step_95 c]
  rw [wp_bind]
  iapply (part51_spec' m K c _ (owedAfter c 96) (insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))
  isplitl [T662]
  · iexact T662
  isplitl [T663]
  · iexact T663
  isplitl [T664]
  · iexact T664
  isplitl [T665]
  · iexact T665
  isplitl [T666]
  · iexact T666
  isplitl [T667]
  · iexact T667
  isplitl [T668]
  · iexact T668
  isplitl [T669]
  · iexact T669
  isplitl [T670]
  · iexact T670
  isplitl [H_owes]
  · iexact H_owes
  iintro %c4_i32_1584 ⟨P671, P672, P673, H_owes⟩
  try dsimp only
  ihave F_recvRes_agS_0 := (bigSepL_wrap (fun k : Fin 32 => recvRes m K agS c 0 k) 1) $$ P671
  ihave F_recvRes_agS_0 := (bigSepL_snoc (fun k : Fin 32 => recvRes m K agS c 0 k) [1] 2 [1, 2] rfl) $$ [F_recvRes_agS_0 P672]
  · isplitl [F_recvRes_agS_0] <;> iassumption
  ihave F_recvRes_agS_0 := (bigSepL_snoc (fun k : Fin 32 => recvRes m K agS c 0 k) [1, 2] 3 [1, 2, 3] rfl) $$ [F_recvRes_agS_0 P673]
  · isplitl [F_recvRes_agS_0] <;> iassumption
  -- k0_part52
  icases (bigSepL_pop (fun k : Fin 32 => copyRes m K agS agR c 0 k) 4 5 [6, 7, 8, 9, 10, 11, 12, 13, 14, 15, 16, 17, 18, 19, 20, 21, 22, 23, 24, 25, 26, 27, 28, 29, 30, 31]) $$ F_copyRes_agS_0 with ⟨T674, F_copyRes_agS_0⟩
  icases (bigSepL_pop (fun k : Fin 32 => outShareAt m c 0 k) 4 5 [6, 7, 8, 9, 10, 11, 12, 13, 14, 15, 16, 17, 18, 19, 20, 21, 22, 23, 24, 25, 26, 27, 28, 29, 30, 31]) $$ F_outShare_0 with ⟨T675, F_outShare_0⟩
  icases (bigSepL_pop (fun k : Fin 32 => peerOutAt c 0 k) 4 5 [6, 7, 8, 9, 10, 11, 12, 13, 14, 15, 16, 17, 18, 19, 20, 21, 22, 23, 24, 25, 26, 27, 28, 29, 30, 31]) $$ F_peerOut_0 with ⟨T676, F_peerOut_0⟩
  icases (bigSepL_pop (fun k : Fin 32 => copyRes m K agS agR c 0 k) 5 6 [7, 8, 9, 10, 11, 12, 13, 14, 15, 16, 17, 18, 19, 20, 21, 22, 23, 24, 25, 26, 27, 28, 29, 30, 31]) $$ F_copyRes_agS_0 with ⟨T677, F_copyRes_agS_0⟩
  icases (bigSepL_pop (fun k : Fin 32 => outShareAt m c 0 k) 5 6 [7, 8, 9, 10, 11, 12, 13, 14, 15, 16, 17, 18, 19, 20, 21, 22, 23, 24, 25, 26, 27, 28, 29, 30, 31]) $$ F_outShare_0 with ⟨T678, F_outShare_0⟩
  icases (bigSepL_pop (fun k : Fin 32 => peerOutAt c 0 k) 5 6 [7, 8, 9, 10, 11, 12, 13, 14, 15, 16, 17, 18, 19, 20, 21, 22, 23, 24, 25, 26, 27, 28, 29, 30, 31]) $$ F_peerOut_0 with ⟨T679, F_peerOut_0⟩
  rw [owed_step_96 c, owed_step_97 c]
  rw [wp_bind]
  iapply (part52_spec' m K c _ _ (owedAfter c 98) ((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))
  isplitl [T674]
  · iexact T674
  isplitl [T675]
  · iexact T675
  isplitl [T676]
  · iexact T676
  isplitl [T677]
  · iexact T677
  isplitl [T678]
  · iexact T678
  isplitl [T679]
  · iexact T679
  isplitl [H_owes]
  · iexact H_owes
  iintro %v1327 ⟨P680, P681, H_owes⟩
  try dsimp only
  ihave F_recvRes_agS_0 := (bigSepL_snoc (fun k : Fin 32 => recvRes m K agS c 0 k) [1, 2, 3] 4 [1, 2, 3, 4] rfl) $$ [F_recvRes_agS_0 P680]
  · isplitl [F_recvRes_agS_0] <;> iassumption
  ihave F_recvRes_agS_0 := (bigSepL_snoc (fun k : Fin 32 => recvRes m K agS c 0 k) [1, 2, 3, 4] 5 [1, 2, 3, 4, 5] rfl) $$ [F_recvRes_agS_0 P681]
  · isplitl [F_recvRes_agS_0] <;> iassumption
  -- k0_part53
  icases (bigSepL_pop (fun k : Fin 32 => copyRes m K agS agR c 0 k) 6 7 [8, 9, 10, 11, 12, 13, 14, 15, 16, 17, 18, 19, 20, 21, 22, 23, 24, 25, 26, 27, 28, 29, 30, 31]) $$ F_copyRes_agS_0 with ⟨T682, F_copyRes_agS_0⟩
  icases (bigSepL_pop (fun k : Fin 32 => outShareAt m c 0 k) 6 7 [8, 9, 10, 11, 12, 13, 14, 15, 16, 17, 18, 19, 20, 21, 22, 23, 24, 25, 26, 27, 28, 29, 30, 31]) $$ F_outShare_0 with ⟨T683, F_outShare_0⟩
  icases (bigSepL_pop (fun k : Fin 32 => peerOutAt c 0 k) 6 7 [8, 9, 10, 11, 12, 13, 14, 15, 16, 17, 18, 19, 20, 21, 22, 23, 24, 25, 26, 27, 28, 29, 30, 31]) $$ F_peerOut_0 with ⟨T684, F_peerOut_0⟩
  icases (bigSepL_pop (fun k : Fin 32 => copyRes m K agS agR c 0 k) 7 8 [9, 10, 11, 12, 13, 14, 15, 16, 17, 18, 19, 20, 21, 22, 23, 24, 25, 26, 27, 28, 29, 30, 31]) $$ F_copyRes_agS_0 with ⟨T685, F_copyRes_agS_0⟩
  icases (bigSepL_pop (fun k : Fin 32 => outShareAt m c 0 k) 7 8 [9, 10, 11, 12, 13, 14, 15, 16, 17, 18, 19, 20, 21, 22, 23, 24, 25, 26, 27, 28, 29, 30, 31]) $$ F_outShare_0 with ⟨T686, F_outShare_0⟩
  icases (bigSepL_pop (fun k : Fin 32 => peerOutAt c 0 k) 7 8 [9, 10, 11, 12, 13, 14, 15, 16, 17, 18, 19, 20, 21, 22, 23, 24, 25, 26, 27, 28, 29, 30, 31]) $$ F_peerOut_0 with ⟨T687, F_peerOut_0⟩
  rw [owed_step_98 c, owed_step_99 c]
  rw [wp_bind]
  iapply (part53_spec' m K c _ _ (owedAfter c 100) (((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))
  isplitl [T682]
  · iexact T682
  isplitl [T683]
  · iexact T683
  isplitl [T684]
  · iexact T684
  isplitl [T685]
  · iexact T685
  isplitl [T686]
  · iexact T686
  isplitl [T687]
  · iexact T687
  isplitl [H_owes]
  · iexact H_owes
  iintro %r ⟨P688, P689, H_owes⟩
  try dsimp only
  ihave F_recvRes_agS_0 := (bigSepL_snoc (fun k : Fin 32 => recvRes m K agS c 0 k) [1, 2, 3, 4, 5] 6 [1, 2, 3, 4, 5, 6] rfl) $$ [F_recvRes_agS_0 P688]
  · isplitl [F_recvRes_agS_0] <;> iassumption
  ihave F_recvRes_agS_0 := (bigSepL_snoc (fun k : Fin 32 => recvRes m K agS c 0 k) [1, 2, 3, 4, 5, 6] 7 [1, 2, 3, 4, 5, 6, 7] rfl) $$ [F_recvRes_agS_0 P689]
  · isplitl [F_recvRes_agS_0] <;> iassumption
  -- k0_part54
  icases (bigSepL_pop (fun k : Fin 32 => copyRes m K agS agR c 0 k) 8 9 [10, 11, 12, 13, 14, 15, 16, 17, 18, 19, 20, 21, 22, 23, 24, 25, 26, 27, 28, 29, 30, 31]) $$ F_copyRes_agS_0 with ⟨T690, F_copyRes_agS_0⟩
  icases (bigSepL_pop (fun k : Fin 32 => outShareAt m c 0 k) 8 9 [10, 11, 12, 13, 14, 15, 16, 17, 18, 19, 20, 21, 22, 23, 24, 25, 26, 27, 28, 29, 30, 31]) $$ F_outShare_0 with ⟨T691, F_outShare_0⟩
  icases (bigSepL_pop (fun k : Fin 32 => peerOutAt c 0 k) 8 9 [10, 11, 12, 13, 14, 15, 16, 17, 18, 19, 20, 21, 22, 23, 24, 25, 26, 27, 28, 29, 30, 31]) $$ F_peerOut_0 with ⟨T692, F_peerOut_0⟩
  icases (bigSepL_pop (fun k : Fin 32 => copyRes m K agS agR c 0 k) 9 10 [11, 12, 13, 14, 15, 16, 17, 18, 19, 20, 21, 22, 23, 24, 25, 26, 27, 28, 29, 30, 31]) $$ F_copyRes_agS_0 with ⟨T693, F_copyRes_agS_0⟩
  icases (bigSepL_pop (fun k : Fin 32 => outShareAt m c 0 k) 9 10 [11, 12, 13, 14, 15, 16, 17, 18, 19, 20, 21, 22, 23, 24, 25, 26, 27, 28, 29, 30, 31]) $$ F_outShare_0 with ⟨T694, F_outShare_0⟩
  icases (bigSepL_pop (fun k : Fin 32 => peerOutAt c 0 k) 9 10 [11, 12, 13, 14, 15, 16, 17, 18, 19, 20, 21, 22, 23, 24, 25, 26, 27, 28, 29, 30, 31]) $$ F_peerOut_0 with ⟨T695, F_peerOut_0⟩
  icases (bigSepL_pop (fun k : Fin 32 => copyRes m K agS agR c 0 k) 10 11 [12, 13, 14, 15, 16, 17, 18, 19, 20, 21, 22, 23, 24, 25, 26, 27, 28, 29, 30, 31]) $$ F_copyRes_agS_0 with ⟨T696, F_copyRes_agS_0⟩
  icases (bigSepL_pop (fun k : Fin 32 => outShareAt m c 0 k) 10 11 [12, 13, 14, 15, 16, 17, 18, 19, 20, 21, 22, 23, 24, 25, 26, 27, 28, 29, 30, 31]) $$ F_outShare_0 with ⟨T697, F_outShare_0⟩
  icases (bigSepL_pop (fun k : Fin 32 => peerOutAt c 0 k) 10 11 [12, 13, 14, 15, 16, 17, 18, 19, 20, 21, 22, 23, 24, 25, 26, 27, 28, 29, 30, 31]) $$ F_peerOut_0 with ⟨T698, F_peerOut_0⟩
  rw [owed_step_100 c, owed_step_101 c, owed_step_102 c]
  rw [wp_bind]
  iapply (part54_spec' m K c _ (owedAfter c 103) ((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))
  isplitl [T690]
  · iexact T690
  isplitl [T691]
  · iexact T691
  isplitl [T692]
  · iexact T692
  isplitl [T693]
  · iexact T693
  isplitl [T694]
  · iexact T694
  isplitl [T695]
  · iexact T695
  isplitl [T696]
  · iexact T696
  isplitl [T697]
  · iexact T697
  isplitl [T698]
  · iexact T698
  isplitl [H_owes]
  · iexact H_owes
  iintro %v1387 ⟨P699, P700, P701, H_owes⟩
  try dsimp only
  ihave F_recvRes_agS_0 := (bigSepL_snoc (fun k : Fin 32 => recvRes m K agS c 0 k) [1, 2, 3, 4, 5, 6, 7] 8 [1, 2, 3, 4, 5, 6, 7, 8] rfl) $$ [F_recvRes_agS_0 P699]
  · isplitl [F_recvRes_agS_0] <;> iassumption
  ihave F_recvRes_agS_0 := (bigSepL_snoc (fun k : Fin 32 => recvRes m K agS c 0 k) [1, 2, 3, 4, 5, 6, 7, 8] 9 [1, 2, 3, 4, 5, 6, 7, 8, 9] rfl) $$ [F_recvRes_agS_0 P700]
  · isplitl [F_recvRes_agS_0] <;> iassumption
  ihave F_recvRes_agS_0 := (bigSepL_snoc (fun k : Fin 32 => recvRes m K agS c 0 k) [1, 2, 3, 4, 5, 6, 7, 8, 9] 10 [1, 2, 3, 4, 5, 6, 7, 8, 9, 10] rfl) $$ [F_recvRes_agS_0 P701]
  · isplitl [F_recvRes_agS_0] <;> iassumption
  -- k0_part55
  icases (bigSepL_pop (fun k : Fin 32 => copyRes m K agS agR c 0 k) 11 12 [13, 14, 15, 16, 17, 18, 19, 20, 21, 22, 23, 24, 25, 26, 27, 28, 29, 30, 31]) $$ F_copyRes_agS_0 with ⟨T702, F_copyRes_agS_0⟩
  icases (bigSepL_pop (fun k : Fin 32 => outShareAt m c 0 k) 11 12 [13, 14, 15, 16, 17, 18, 19, 20, 21, 22, 23, 24, 25, 26, 27, 28, 29, 30, 31]) $$ F_outShare_0 with ⟨T703, F_outShare_0⟩
  icases (bigSepL_pop (fun k : Fin 32 => peerOutAt c 0 k) 11 12 [13, 14, 15, 16, 17, 18, 19, 20, 21, 22, 23, 24, 25, 26, 27, 28, 29, 30, 31]) $$ F_peerOut_0 with ⟨T704, F_peerOut_0⟩
  icases (bigSepL_pop (fun k : Fin 32 => copyRes m K agS agR c 0 k) 12 13 [14, 15, 16, 17, 18, 19, 20, 21, 22, 23, 24, 25, 26, 27, 28, 29, 30, 31]) $$ F_copyRes_agS_0 with ⟨T705, F_copyRes_agS_0⟩
  icases (bigSepL_pop (fun k : Fin 32 => outShareAt m c 0 k) 12 13 [14, 15, 16, 17, 18, 19, 20, 21, 22, 23, 24, 25, 26, 27, 28, 29, 30, 31]) $$ F_outShare_0 with ⟨T706, F_outShare_0⟩
  icases (bigSepL_pop (fun k : Fin 32 => peerOutAt c 0 k) 12 13 [14, 15, 16, 17, 18, 19, 20, 21, 22, 23, 24, 25, 26, 27, 28, 29, 30, 31]) $$ F_peerOut_0 with ⟨T707, F_peerOut_0⟩
  rw [owed_step_103 c, owed_step_104 c]
  rw [wp_bind]
  iapply (part55_spec' m K c _ _ (owedAfter c 105) (((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))
  isplitl [T702]
  · iexact T702
  isplitl [T703]
  · iexact T703
  isplitl [T704]
  · iexact T704
  isplitl [T705]
  · iexact T705
  isplitl [T706]
  · iexact T706
  isplitl [T707]
  · iexact T707
  isplitl [H_owes]
  · iexact H_owes
  iintro %r ⟨P708, P709, H_owes⟩
  try dsimp only
  ihave F_recvRes_agS_0 := (bigSepL_snoc (fun k : Fin 32 => recvRes m K agS c 0 k) [1, 2, 3, 4, 5, 6, 7, 8, 9, 10] 11 [1, 2, 3, 4, 5, 6, 7, 8, 9, 10, 11] rfl) $$ [F_recvRes_agS_0 P708]
  · isplitl [F_recvRes_agS_0] <;> iassumption
  ihave F_recvRes_agS_0 := (bigSepL_snoc (fun k : Fin 32 => recvRes m K agS c 0 k) [1, 2, 3, 4, 5, 6, 7, 8, 9, 10, 11] 12 [1, 2, 3, 4, 5, 6, 7, 8, 9, 10, 11, 12] rfl) $$ [F_recvRes_agS_0 P709]
  · isplitl [F_recvRes_agS_0] <;> iassumption
  -- k0_part56
  icases (bigSepL_pop (fun k : Fin 32 => copyRes m K agS agR c 0 k) 13 14 [15, 16, 17, 18, 19, 20, 21, 22, 23, 24, 25, 26, 27, 28, 29, 30, 31]) $$ F_copyRes_agS_0 with ⟨T710, F_copyRes_agS_0⟩
  icases (bigSepL_pop (fun k : Fin 32 => outShareAt m c 0 k) 13 14 [15, 16, 17, 18, 19, 20, 21, 22, 23, 24, 25, 26, 27, 28, 29, 30, 31]) $$ F_outShare_0 with ⟨T711, F_outShare_0⟩
  icases (bigSepL_pop (fun k : Fin 32 => peerOutAt c 0 k) 13 14 [15, 16, 17, 18, 19, 20, 21, 22, 23, 24, 25, 26, 27, 28, 29, 30, 31]) $$ F_peerOut_0 with ⟨T712, F_peerOut_0⟩
  icases (bigSepL_pop (fun k : Fin 32 => copyRes m K agS agR c 0 k) 14 15 [16, 17, 18, 19, 20, 21, 22, 23, 24, 25, 26, 27, 28, 29, 30, 31]) $$ F_copyRes_agS_0 with ⟨T713, F_copyRes_agS_0⟩
  icases (bigSepL_pop (fun k : Fin 32 => outShareAt m c 0 k) 14 15 [16, 17, 18, 19, 20, 21, 22, 23, 24, 25, 26, 27, 28, 29, 30, 31]) $$ F_outShare_0 with ⟨T714, F_outShare_0⟩
  icases (bigSepL_pop (fun k : Fin 32 => peerOutAt c 0 k) 14 15 [16, 17, 18, 19, 20, 21, 22, 23, 24, 25, 26, 27, 28, 29, 30, 31]) $$ F_peerOut_0 with ⟨T715, F_peerOut_0⟩
  icases (bigSepL_pop (fun k : Fin 32 => copyRes m K agS agR c 0 k) 15 16 [17, 18, 19, 20, 21, 22, 23, 24, 25, 26, 27, 28, 29, 30, 31]) $$ F_copyRes_agS_0 with ⟨T716, F_copyRes_agS_0⟩
  icases (bigSepL_pop (fun k : Fin 32 => outShareAt m c 0 k) 15 16 [17, 18, 19, 20, 21, 22, 23, 24, 25, 26, 27, 28, 29, 30, 31]) $$ F_outShare_0 with ⟨T717, F_outShare_0⟩
  icases (bigSepL_pop (fun k : Fin 32 => peerOutAt c 0 k) 15 16 [17, 18, 19, 20, 21, 22, 23, 24, 25, 26, 27, 28, 29, 30, 31]) $$ F_peerOut_0 with ⟨T718, F_peerOut_0⟩
  rw [owed_step_105 c, owed_step_106 c, owed_step_107 c]
  rw [wp_bind]
  iapply (part56_spec' m K c _ (owedAfter c 108) ((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))
  isplitl [T710]
  · iexact T710
  isplitl [T711]
  · iexact T711
  isplitl [T712]
  · iexact T712
  isplitl [T713]
  · iexact T713
  isplitl [T714]
  · iexact T714
  isplitl [T715]
  · iexact T715
  isplitl [T716]
  · iexact T716
  isplitl [T717]
  · iexact T717
  isplitl [T718]
  · iexact T718
  isplitl [H_owes]
  · iexact H_owes
  iintro %c16_i32_1728 ⟨P719, P720, P721, H_owes⟩
  try dsimp only
  ihave F_recvRes_agS_0 := (bigSepL_snoc (fun k : Fin 32 => recvRes m K agS c 0 k) [1, 2, 3, 4, 5, 6, 7, 8, 9, 10, 11, 12] 13 [1, 2, 3, 4, 5, 6, 7, 8, 9, 10, 11, 12, 13] rfl) $$ [F_recvRes_agS_0 P719]
  · isplitl [F_recvRes_agS_0] <;> iassumption
  ihave F_recvRes_agS_0 := (bigSepL_snoc (fun k : Fin 32 => recvRes m K agS c 0 k) [1, 2, 3, 4, 5, 6, 7, 8, 9, 10, 11, 12, 13] 14 [1, 2, 3, 4, 5, 6, 7, 8, 9, 10, 11, 12, 13, 14] rfl) $$ [F_recvRes_agS_0 P720]
  · isplitl [F_recvRes_agS_0] <;> iassumption
  ihave F_recvRes_agS_0 := (bigSepL_snoc (fun k : Fin 32 => recvRes m K agS c 0 k) [1, 2, 3, 4, 5, 6, 7, 8, 9, 10, 11, 12, 13, 14] 15 [1, 2, 3, 4, 5, 6, 7, 8, 9, 10, 11, 12, 13, 14, 15] rfl) $$ [F_recvRes_agS_0 P721]
  · isplitl [F_recvRes_agS_0] <;> iassumption
  -- k0_part57
  icases (bigSepL_pop (fun k : Fin 32 => copyRes m K agS agR c 0 k) 16 17 [18, 19, 20, 21, 22, 23, 24, 25, 26, 27, 28, 29, 30, 31]) $$ F_copyRes_agS_0 with ⟨T722, F_copyRes_agS_0⟩
  icases (bigSepL_pop (fun k : Fin 32 => outShareAt m c 0 k) 16 17 [18, 19, 20, 21, 22, 23, 24, 25, 26, 27, 28, 29, 30, 31]) $$ F_outShare_0 with ⟨T723, F_outShare_0⟩
  icases (bigSepL_pop (fun k : Fin 32 => peerOutAt c 0 k) 16 17 [18, 19, 20, 21, 22, 23, 24, 25, 26, 27, 28, 29, 30, 31]) $$ F_peerOut_0 with ⟨T724, F_peerOut_0⟩
  icases (bigSepL_pop (fun k : Fin 32 => copyRes m K agS agR c 0 k) 17 18 [19, 20, 21, 22, 23, 24, 25, 26, 27, 28, 29, 30, 31]) $$ F_copyRes_agS_0 with ⟨T725, F_copyRes_agS_0⟩
  icases (bigSepL_pop (fun k : Fin 32 => outShareAt m c 0 k) 17 18 [19, 20, 21, 22, 23, 24, 25, 26, 27, 28, 29, 30, 31]) $$ F_outShare_0 with ⟨T726, F_outShare_0⟩
  icases (bigSepL_pop (fun k : Fin 32 => peerOutAt c 0 k) 17 18 [19, 20, 21, 22, 23, 24, 25, 26, 27, 28, 29, 30, 31]) $$ F_peerOut_0 with ⟨T727, F_peerOut_0⟩
  rw [owed_step_108 c, owed_step_109 c]
  rw [wp_bind]
  iapply (part57_spec' m K c _ _ (owedAfter c 110) (((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))
  isplitl [T722]
  · iexact T722
  isplitl [T723]
  · iexact T723
  isplitl [T724]
  · iexact T724
  isplitl [T725]
  · iexact T725
  isplitl [T726]
  · iexact T726
  isplitl [T727]
  · iexact T727
  isplitl [H_owes]
  · iexact H_owes
  iintro %v1471 ⟨P728, P729, H_owes⟩
  try dsimp only
  ihave F_recvRes_agS_0 := (bigSepL_snoc (fun k : Fin 32 => recvRes m K agS c 0 k) [1, 2, 3, 4, 5, 6, 7, 8, 9, 10, 11, 12, 13, 14, 15] 16 [1, 2, 3, 4, 5, 6, 7, 8, 9, 10, 11, 12, 13, 14, 15, 16] rfl) $$ [F_recvRes_agS_0 P728]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16] 17 [1, 2, 3, 4, 5, 6, 7, 8, 9, 10, 11, 12, 13, 14, 15, 16, 17] rfl) $$ [F_recvRes_agS_0 P729]
  · isplitl [F_recvRes_agS_0] <;> iassumption
  -- k0_part58
  icases (bigSepL_pop (fun k : Fin 32 => copyRes m K agS agR c 0 k) 18 19 [20, 21, 22, 23, 24, 25, 26, 27, 28, 29, 30, 31]) $$ F_copyRes_agS_0 with ⟨T730, F_copyRes_agS_0⟩
  icases (bigSepL_pop (fun k : Fin 32 => outShareAt m c 0 k) 18 19 [20, 21, 22, 23, 24, 25, 26, 27, 28, 29, 30, 31]) $$ F_outShare_0 with ⟨T731, F_outShare_0⟩
  icases (bigSepL_pop (fun k : Fin 32 => peerOutAt c 0 k) 18 19 [20, 21, 22, 23, 24, 25, 26, 27, 28, 29, 30, 31]) $$ F_peerOut_0 with ⟨T732, F_peerOut_0⟩
  icases (bigSepL_pop (fun k : Fin 32 => copyRes m K agS agR c 0 k) 19 20 [21, 22, 23, 24, 25, 26, 27, 28, 29, 30, 31]) $$ F_copyRes_agS_0 with ⟨T733, F_copyRes_agS_0⟩
  icases (bigSepL_pop (fun k : Fin 32 => outShareAt m c 0 k) 19 20 [21, 22, 23, 24, 25, 26, 27, 28, 29, 30, 31]) $$ F_outShare_0 with ⟨T734, F_outShare_0⟩
  icases (bigSepL_pop (fun k : Fin 32 => peerOutAt c 0 k) 19 20 [21, 22, 23, 24, 25, 26, 27, 28, 29, 30, 31]) $$ F_peerOut_0 with ⟨T735, F_peerOut_0⟩
  rw [owed_step_110 c, owed_step_111 c]
  rw [wp_bind]
  iapply (part58_spec' m K c _ _ (owedAfter c 112) ((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))
  isplitl [T730]
  · iexact T730
  isplitl [T731]
  · iexact T731
  isplitl [T732]
  · iexact T732
  isplitl [T733]
  · iexact T733
  isplitl [T734]
  · iexact T734
  isplitl [T735]
  · iexact T735
  isplitl [H_owes]
  · iexact H_owes
  iintro %r ⟨P736, P737, H_owes⟩
  try dsimp only
  ihave F_recvRes_agS_0 := (bigSepL_snoc (fun k : Fin 32 => recvRes m K agS c 0 k) [1, 2, 3, 4, 5, 6, 7, 8, 9, 10, 11, 12, 13, 14, 15, 16, 17] 18 [1, 2, 3, 4, 5, 6, 7, 8, 9, 10, 11, 12, 13, 14, 15, 16, 17, 18] rfl) $$ [F_recvRes_agS_0 P736]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_recvRes_agS_0 P737]
  · isplitl [F_recvRes_agS_0] <;> iassumption
  -- k0_part59
  icases (bigSepL_pop (fun k : Fin 32 => copyRes m K agS agR c 0 k) 20 21 [22, 23, 24, 25, 26, 27, 28, 29, 30, 31]) $$ F_copyRes_agS_0 with ⟨T738, F_copyRes_agS_0⟩
  icases (bigSepL_pop (fun k : Fin 32 => outShareAt m c 0 k) 20 21 [22, 23, 24, 25, 26, 27, 28, 29, 30, 31]) $$ F_outShare_0 with ⟨T739, F_outShare_0⟩
  icases (bigSepL_pop (fun k : Fin 32 => peerOutAt c 0 k) 20 21 [22, 23, 24, 25, 26, 27, 28, 29, 30, 31]) $$ F_peerOut_0 with ⟨T740, F_peerOut_0⟩
  icases (bigSepL_pop (fun k : Fin 32 => copyRes m K agS agR c 0 k) 21 22 [23, 24, 25, 26, 27, 28, 29, 30, 31]) $$ F_copyRes_agS_0 with ⟨T741, F_copyRes_agS_0⟩
  icases (bigSepL_pop (fun k : Fin 32 => outShareAt m c 0 k) 21 22 [23, 24, 25, 26, 27, 28, 29, 30, 31]) $$ F_outShare_0 with ⟨T742, F_outShare_0⟩
  icases (bigSepL_pop (fun k : Fin 32 => peerOutAt c 0 k) 21 22 [23, 24, 25, 26, 27, 28, 29, 30, 31]) $$ F_peerOut_0 with ⟨T743, F_peerOut_0⟩
  icases (bigSepL_pop (fun k : Fin 32 => copyRes m K agS agR c 0 k) 22 23 [24, 25, 26, 27, 28, 29, 30, 31]) $$ F_copyRes_agS_0 with ⟨T744, F_copyRes_agS_0⟩
  icases (bigSepL_pop (fun k : Fin 32 => outShareAt m c 0 k) 22 23 [24, 25, 26, 27, 28, 29, 30, 31]) $$ F_outShare_0 with ⟨T745, F_outShare_0⟩
  icases (bigSepL_pop (fun k : Fin 32 => peerOutAt c 0 k) 22 23 [24, 25, 26, 27, 28, 29, 30, 31]) $$ F_peerOut_0 with ⟨T746, F_peerOut_0⟩
  rw [owed_step_112 c, owed_step_113 c, owed_step_114 c]
  rw [wp_bind]
  iapply (part59_spec' m K c _ (owedAfter c 115) (((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))
  isplitl [T738]
  · iexact T738
  isplitl [T739]
  · iexact T739
  isplitl [T740]
  · iexact T740
  isplitl [T741]
  · iexact T741
  isplitl [T742]
  · iexact T742
  isplitl [T743]
  · iexact T743
  isplitl [T744]
  · iexact T744
  isplitl [T745]
  · iexact T745
  isplitl [T746]
  · iexact T746
  isplitl [H_owes]
  · iexact H_owes
  iintro %v1531 ⟨P747, P748, P749, H_owes⟩
  try dsimp only
  ihave F_recvRes_agS_0 := (bigSepL_snoc (fun k : Fin 32 => recvRes m K agS c 0 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_recvRes_agS_0 P747]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_recvRes_agS_0 P748]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_recvRes_agS_0 P749]
  · isplitl [F_recvRes_agS_0] <;> iassumption
  -- k0_part60
  icases (bigSepL_pop (fun k : Fin 32 => copyRes m K agS agR c 0 k) 23 24 [25, 26, 27, 28, 29, 30, 31]) $$ F_copyRes_agS_0 with ⟨T750, F_copyRes_agS_0⟩
  icases (bigSepL_pop (fun k : Fin 32 => outShareAt m c 0 k) 23 24 [25, 26, 27, 28, 29, 30, 31]) $$ F_outShare_0 with ⟨T751, F_outShare_0⟩
  icases (bigSepL_pop (fun k : Fin 32 => peerOutAt c 0 k) 23 24 [25, 26, 27, 28, 29, 30, 31]) $$ F_peerOut_0 with ⟨T752, F_peerOut_0⟩
  icases (bigSepL_pop (fun k : Fin 32 => copyRes m K agS agR c 0 k) 24 25 [26, 27, 28, 29, 30, 31]) $$ F_copyRes_agS_0 with ⟨T753, F_copyRes_agS_0⟩
  icases (bigSepL_pop (fun k : Fin 32 => outShareAt m c 0 k) 24 25 [26, 27, 28, 29, 30, 31]) $$ F_outShare_0 with ⟨T754, F_outShare_0⟩
  icases (bigSepL_pop (fun k : Fin 32 => peerOutAt c 0 k) 24 25 [26, 27, 28, 29, 30, 31]) $$ F_peerOut_0 with ⟨T755, F_peerOut_0⟩
  rw [owed_step_115 c, owed_step_116 c]
  rw [wp_bind]
  iapply (part60_spec' m K c _ _ (owedAfter c 117) ((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))
  isplitl [T750]
  · iexact T750
  isplitl [T751]
  · iexact T751
  isplitl [T752]
  · iexact T752
  isplitl [T753]
  · iexact T753
  isplitl [T754]
  · iexact T754
  isplitl [T755]
  · iexact T755
  isplitl [H_owes]
  · iexact H_owes
  iintro %r ⟨P756, P757, H_owes⟩
  try dsimp only
  ihave F_recvRes_agS_0 := (bigSepL_snoc (fun k : Fin 32 => recvRes m K agS c 0 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_recvRes_agS_0 P756]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_recvRes_agS_0 P757]
  · isplitl [F_recvRes_agS_0] <;> iassumption
  rw [wp_pure]
  imodintro
  iapply Hk
  isplitl [H_owes]
  · iexact H_owes
  isplitl [F_stgX]
  · iexact F_stgX
  isplitl [F_stgW]
  · iexact F_stgW
  isplitl [F_accSrc0_0]
  · iexact F_accSrc0_0
  isplitl [F_got_rsR_0]
  · iexact F_got_rsR_0
  isplitl [F_peerOut_0]
  · iexact F_peerOut_0
  isplitl [F_peerOut_1]
  · iexact F_peerOut_1
  isplitl [F_recvRes_rsS_0]
  · iexact F_recvRes_rsS_0
  isplitl [F_accSrc0_1]
  · iexact F_accSrc0_1
  isplitl [F_got_rsR_1]
  · iexact F_got_rsR_1
  isplitl [F_recvRes_rsS_1]
  · iexact F_recvRes_rsS_1
  isplitl [F_closed_rsR_0]
  · iexact F_closed_rsR_0
  isplitl [F_outShare0_0]
  · iexact F_outShare0_0
  isplitl [F_outShare_0]
  · iexact F_outShare_0
  isplitl [F_copyRes_agS_0]
  · iexact F_copyRes_agS_0
  iexact F_recvRes_agS_0

set_option maxRecDepth 100000 in
set_option maxHeartbeats 4000000 in
theorem part148_spec (c : Dev nD) (v2 : BitVec 32) (fo : Buf (Elt F) ((c : Thread nD τ).loc cc0_scratch1)) (W : Waits sig Unit) (Q : (Σ' (v3005 : BitVec 32), BitVec 32) → sProp 𝕄) :
    iprop(owes (c : Thread nD τ) (owedAfter c 117) W
      ∗ levAts L lv
      ∗ bigSepL ([25, 26, 27, 28, 29, 30, 31] : List (Fin 32)) (fun k : Fin 32 => copyRes m K agS agR c 0 k)
      ∗ bigSepL ([25, 26, 27, 28, 29, 30, 31] : List (Fin 32)) (fun k : Fin 32 => outShareAt m c 0 k)
      ∗ bigSepL ([25, 26, 27, 28, 29, 30, 31] : List (Fin 32)) (fun k : Fin 32 => peerOutAt c 0 k)
      ∗ bigSepL ([1, 2, 3, 4, 5, 6, 7, 8, 9, 10, 11, 12, 13, 14, 15, 16, 17, 18, 19, 20, 21, 22, 23, 24] : List (Fin 32)) (fun k : Fin 32 => recvRes m K agS c 0 k)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K rsR c 1 k)
      ∗ bigSepL ([0] : List (Fin 32)) (fun k : Fin 32 => gotRsR m c 1 k)
      ∗ bigSepL ([0] : List (Fin 32)) (fun k : Fin 32 => outAt c 1 k fo)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => copyRes m K agS agR c 1 k)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => peerOutAt c 1 k)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K rsS c 0 k)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K rsS c 1 k)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K agR c 0 k)
      ∗ (∀ r, (owes (c : Thread nD τ) (owedAfter c 155) (insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))))))))))))))))))))))))))))))))))))))))))))))))))))))))))))))))) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K agS c 0 k) ∗ bigSepL ([0, 1, 2, 3, 4, 5, 6, 7, 8, 9, 10, 11, 12, 13, 14, 15, 16, 17, 18, 19, 20, 21, 22, 23, 24, 25, 26, 27, 28, 29, 30, 31] : List (Fin 32)) (fun k : Fin 32 => gotRsR m c 1 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => closedAt m K c 1 k rsR) ∗ bigSepL ([0] : List (Fin 32)) (fun k : Fin 32 => outShareAt m c 1 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K agS c 1 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => accSrcAt m c 0 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => closedAt m K c 0 k rsS) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => accSrcAt m c 1 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => closedAt m K c 1 k rsS) ∗ bigSepL ([30, 31] : List (Fin 32)) (fun k : Fin 32 => recvRes m K agR c 0 k) ∗ bigSepL ([1, 2, 3, 4, 5, 6, 7, 8, 9, 10, 11, 12, 13, 14, 15, 16, 17, 18, 19, 20, 21, 22, 23, 24, 25, 26, 27, 28, 29] : List (Fin 32)) (fun k : Fin 32 => gotAgR m c 0 k) ∗ bigSepL ([1, 2, 3, 4, 5, 6, 7, 8, 9, 10, 11, 12, 13, 14, 15, 16, 17, 18, 19, 20, 21, 22, 23, 24, 25, 26, 27, 28, 29] : List (Fin 32)) (fun k : Fin 32 => closedAt m K c 0 k agR)) -∗ Q r))
      ⊢ wp frame (wpE (defs₀ (F := F)) 𝒱₀ c none) Set.univ (k0_part148 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  rw [k0_part148_eq_skeleton]; unfold k0_part148_skel
  iintro ⟨H_owes, #Hlev, F_copyRes_agS_0, F_outShare_0, F_peerOut_0, F_recvRes_agS_0, F_recvRes_rsR_1, F_got_rsR_1, F_out0_1, F_copyRes_agS_1, F_peerOut_1, F_recvRes_rsS_0, F_recvRes_rsS_1, F_recvRes_agR_0, Hk⟩
  -- k0_part61
  icases (bigSepL_pop (fun k : Fin 32 => copyRes m K agS agR c 0 k) 25 26 [27, 28, 29, 30, 31]) $$ F_copyRes_agS_0 with ⟨T1, F_copyRes_agS_0⟩
  icases (bigSepL_pop (fun k : Fin 32 => outShareAt m c 0 k) 25 26 [27, 28, 29, 30, 31]) $$ F_outShare_0 with ⟨T2, F_outShare_0⟩
  icases (bigSepL_pop (fun k : Fin 32 => peerOutAt c 0 k) 25 26 [27, 28, 29, 30, 31]) $$ F_peerOut_0 with ⟨T3, F_peerOut_0⟩
  icases (bigSepL_pop (fun k : Fin 32 => copyRes m K agS agR c 0 k) 26 27 [28, 29, 30, 31]) $$ F_copyRes_agS_0 with ⟨T4, F_copyRes_agS_0⟩
  icases (bigSepL_pop (fun k : Fin 32 => outShareAt m c 0 k) 26 27 [28, 29, 30, 31]) $$ F_outShare_0 with ⟨T5, F_outShare_0⟩
  icases (bigSepL_pop (fun k : Fin 32 => peerOutAt c 0 k) 26 27 [28, 29, 30, 31]) $$ F_peerOut_0 with ⟨T6, F_peerOut_0⟩
  icases (bigSepL_pop (fun k : Fin 32 => copyRes m K agS agR c 0 k) 27 28 [29, 30, 31]) $$ F_copyRes_agS_0 with ⟨T7, F_copyRes_agS_0⟩
  icases (bigSepL_pop (fun k : Fin 32 => outShareAt m c 0 k) 27 28 [29, 30, 31]) $$ F_outShare_0 with ⟨T8, F_outShare_0⟩
  icases (bigSepL_pop (fun k : Fin 32 => peerOutAt c 0 k) 27 28 [29, 30, 31]) $$ F_peerOut_0 with ⟨T9, F_peerOut_0⟩
  rw [owed_step_117 c, owed_step_118 c, owed_step_119 c]
  rw [wp_bind]
  iapply (part61_spec' m K c _ (owedAfter c 120) (W))
  isplitl [T1]
  · iexact T1
  isplitl [T2]
  · iexact T2
  isplitl [T3]
  · iexact T3
  isplitl [T4]
  · iexact T4
  isplitl [T5]
  · iexact T5
  isplitl [T6]
  · iexact T6
  isplitl [T7]
  · iexact T7
  isplitl [T8]
  · iexact T8
  isplitl [T9]
  · iexact T9
  isplitl [H_owes]
  · iexact H_owes
  iintro %c28_i32_1872 ⟨P10, P11, P12, H_owes⟩
  try dsimp only
  ihave F_recvRes_agS_0 := (bigSepL_snoc (fun k : Fin 32 => recvRes m K agS c 0 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_recvRes_agS_0 P10]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_recvRes_agS_0 P11]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_recvRes_agS_0 P12]
  · isplitl [F_recvRes_agS_0] <;> iassumption
  -- k0_part62
  icases (bigSepL_pop (fun k : Fin 32 => copyRes m K agS agR c 0 k) 28 29 [30, 31]) $$ F_copyRes_agS_0 with ⟨T13, F_copyRes_agS_0⟩
  icases (bigSepL_pop (fun k : Fin 32 => outShareAt m c 0 k) 28 29 [30, 31]) $$ F_outShare_0 with ⟨T14, F_outShare_0⟩
  icases (bigSepL_pop (fun k : Fin 32 => peerOutAt c 0 k) 28 29 [30, 31]) $$ F_peerOut_0 with ⟨T15, F_peerOut_0⟩
  icases (bigSepL_pop (fun k : Fin 32 => copyRes m K agS agR c 0 k) 29 30 [31]) $$ F_copyRes_agS_0 with ⟨T16, F_copyRes_agS_0⟩
  icases (bigSepL_pop (fun k : Fin 32 => outShareAt m c 0 k) 29 30 [31]) $$ F_outShare_0 with ⟨T17, F_outShare_0⟩
  icases (bigSepL_pop (fun k : Fin 32 => peerOutAt c 0 k) 29 30 [31]) $$ F_peerOut_0 with ⟨T18, F_peerOut_0⟩
  rw [owed_step_120 c, owed_step_121 c]
  rw [wp_bind]
  iapply (part62_spec' m K c _ _ (owedAfter c 122) (W))
  isplitl [T13]
  · iexact T13
  isplitl [T14]
  · iexact T14
  isplitl [T15]
  · iexact T15
  isplitl [T16]
  · iexact T16
  isplitl [T17]
  · iexact T17
  isplitl [T18]
  · iexact T18
  isplitl [H_owes]
  · iexact H_owes
  iintro %v1615 ⟨P19, P20, H_owes⟩
  try dsimp only
  ihave F_recvRes_agS_0 := (bigSepL_snoc (fun k : Fin 32 => recvRes m K agS c 0 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_recvRes_agS_0 P19]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_recvRes_agS_0 P20]
  · isplitl [F_recvRes_agS_0] <;> iassumption
  -- k0_part63
  icases (bigSepL_pop (fun k : Fin 32 => copyRes m K agS agR c 0 k) 30 31 []) $$ F_copyRes_agS_0 with ⟨T21, F_copyRes_agS_0⟩
  icases (bigSepL_pop (fun k : Fin 32 => outShareAt m c 0 k) 30 31 []) $$ F_outShare_0 with ⟨T22, F_outShare_0⟩
  icases (bigSepL_pop (fun k : Fin 32 => peerOutAt c 0 k) 30 31 []) $$ F_peerOut_0 with ⟨T23, F_peerOut_0⟩
  ihave T24 := (bigSepL_one (fun k : Fin 32 => copyRes m K agS agR c 0 k) 31) $$ F_copyRes_agS_0
  ihave T25 := (bigSepL_one (fun k : Fin 32 => outShareAt m c 0 k) 31) $$ F_outShare_0
  ihave T26 := (bigSepL_one (fun k : Fin 32 => peerOutAt c 0 k) 31) $$ F_peerOut_0
  rw [owed_step_122 c, owed_step_123 c]
  rw [wp_bind]
  iapply (part63_spec' m K c _ _ (owedAfter c 124) (W))
  isplitl [T21]
  · iexact T21
  isplitl [T22]
  · iexact T22
  isplitl [T23]
  · iexact T23
  isplitl [T24]
  · iexact T24
  isplitl [T25]
  · iexact T25
  isplitl [T26]
  · iexact T26
  isplitl [H_owes]
  · iexact H_owes
  iintro %r ⟨P27, P28, H_owes⟩
  try dsimp only
  ihave F_recvRes_agS_0 := (bigSepL_snoc (fun k : Fin 32 => recvRes m K agS c 0 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_recvRes_agS_0 P27]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_recvRes_agS_0 P28]
  · isplitl [F_recvRes_agS_0] <;> iassumption
  -- k0_part64
  icases (bigSepL_pop (fun k : Fin 32 => recvRes m K rsR c 1 k) 1 2 [3, 4, 5, 6, 7, 8, 9, 10, 11, 12, 13, 14, 15, 16, 17, 18, 19, 20, 21, 22, 23, 24, 25, 26, 27, 28, 29, 30, 31]) $$ F_recvRes_rsR_1 with ⟨T29, F_recvRes_rsR_1⟩
  icases (bigSepL_pop (fun k : Fin 32 => recvRes m K rsR c 1 k) 2 3 [4, 5, 6, 7, 8, 9, 10, 11, 12, 13, 14, 15, 16, 17, 18, 19, 20, 21, 22, 23, 24, 25, 26, 27, 28, 29, 30, 31]) $$ F_recvRes_rsR_1 with ⟨T30, F_recvRes_rsR_1⟩
  rw [wp_bind]
  iapply (part64_spec' m K c _ (W))
  isplitl [T29]
  · iexact T29
  isplitl [T30]
  · iexact T30
  isplitl []
  · iexact Hlev
  isplitl [H_owes]
  · iexact H_owes
  iintro %r ⟨P31, P32, P33, P34, H_owes⟩
  try dsimp only
  ihave F_got_rsR_1 := (bigSepL_snoc (fun k : Fin 32 => gotRsR m c 1 k) [0] 1 [0, 1] rfl) $$ [F_got_rsR_1 P31]
  · isplitl [F_got_rsR_1] <;> iassumption
  ihave F_closed_rsR_1 := (bigSepL_wrap (fun k : Fin 32 => closedAt m K c 1 k rsR) 1) $$ P32
  ihave F_got_rsR_1 := (bigSepL_snoc (fun k : Fin 32 => gotRsR m c 1 k) [0, 1] 2 [0, 1, 2] rfl) $$ [F_got_rsR_1 P33]
  · isplitl [F_got_rsR_1] <;> iassumption
  ihave F_closed_rsR_1 := (bigSepL_snoc (fun k : Fin 32 => closedAt m K c 1 k rsR) [1] 2 [1, 2] rfl) $$ [F_closed_rsR_1 P34]
  · isplitl [F_closed_rsR_1] <;> iassumption
  -- k0_part65
  icases (bigSepL_pop (fun k : Fin 32 => recvRes m K rsR c 1 k) 3 4 [5, 6, 7, 8, 9, 10, 11, 12, 13, 14, 15, 16, 17, 18, 19, 20, 21, 22, 23, 24, 25, 26, 27, 28, 29, 30, 31]) $$ F_recvRes_rsR_1 with ⟨T35, F_recvRes_rsR_1⟩
  icases (bigSepL_pop (fun k : Fin 32 => recvRes m K rsR c 1 k) 4 5 [6, 7, 8, 9, 10, 11, 12, 13, 14, 15, 16, 17, 18, 19, 20, 21, 22, 23, 24, 25, 26, 27, 28, 29, 30, 31]) $$ F_recvRes_rsR_1 with ⟨T36, F_recvRes_rsR_1⟩
  rw [wp_bind]
  iapply (part65_spec' m K c _ (insert (SemLoc.dma (semAt (arr rsR) 1 2), ()) (insert (SemLoc.dma (semAt (arr rsR) 1 1), ()) (W))))
  isplitl [T35]
  · iexact T35
  isplitl [T36]
  · iexact T36
  isplitl []
  · iexact Hlev
  isplitl [H_owes]
  · iexact H_owes
  iintro %r ⟨P37, P38, P39, P40, H_owes⟩
  try dsimp only
  ihave F_got_rsR_1 := (bigSepL_snoc (fun k : Fin 32 => gotRsR m c 1 k) [0, 1, 2] 3 [0, 1, 2, 3] rfl) $$ [F_got_rsR_1 P37]
  · isplitl [F_got_rsR_1] <;> iassumption
  ihave F_closed_rsR_1 := (bigSepL_snoc (fun k : Fin 32 => closedAt m K c 1 k rsR) [1, 2] 3 [1, 2, 3] rfl) $$ [F_closed_rsR_1 P38]
  · isplitl [F_closed_rsR_1] <;> iassumption
  ihave F_got_rsR_1 := (bigSepL_snoc (fun k : Fin 32 => gotRsR m c 1 k) [0, 1, 2, 3] 4 [0, 1, 2, 3, 4] rfl) $$ [F_got_rsR_1 P39]
  · isplitl [F_got_rsR_1] <;> iassumption
  ihave F_closed_rsR_1 := (bigSepL_snoc (fun k : Fin 32 => closedAt m K c 1 k rsR) [1, 2, 3] 4 [1, 2, 3, 4] rfl) $$ [F_closed_rsR_1 P40]
  · isplitl [F_closed_rsR_1] <;> iassumption
  -- k0_part66
  icases (bigSepL_pop (fun k : Fin 32 => recvRes m K rsR c 1 k) 5 6 [7, 8, 9, 10, 11, 12, 13, 14, 15, 16, 17, 18, 19, 20, 21, 22, 23, 24, 25, 26, 27, 28, 29, 30, 31]) $$ F_recvRes_rsR_1 with ⟨T41, F_recvRes_rsR_1⟩
  icases (bigSepL_pop (fun k : Fin 32 => recvRes m K rsR c 1 k) 6 7 [8, 9, 10, 11, 12, 13, 14, 15, 16, 17, 18, 19, 20, 21, 22, 23, 24, 25, 26, 27, 28, 29, 30, 31]) $$ F_recvRes_rsR_1 with ⟨T42, F_recvRes_rsR_1⟩
  rw [wp_bind]
  iapply (part66_spec' m K c _ (insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))
  isplitl [T41]
  · iexact T41
  isplitl [T42]
  · iexact T42
  isplitl []
  · iexact Hlev
  isplitl [H_owes]
  · iexact H_owes
  iintro %r ⟨P43, P44, P45, P46, H_owes⟩
  try dsimp only
  ihave F_got_rsR_1 := (bigSepL_snoc (fun k : Fin 32 => gotRsR m c 1 k) [0, 1, 2, 3, 4] 5 [0, 1, 2, 3, 4, 5] rfl) $$ [F_got_rsR_1 P43]
  · isplitl [F_got_rsR_1] <;> iassumption
  ihave F_closed_rsR_1 := (bigSepL_snoc (fun k : Fin 32 => closedAt m K c 1 k rsR) [1, 2, 3, 4] 5 [1, 2, 3, 4, 5] rfl) $$ [F_closed_rsR_1 P44]
  · isplitl [F_closed_rsR_1] <;> iassumption
  ihave F_got_rsR_1 := (bigSepL_snoc (fun k : Fin 32 => gotRsR m c 1 k) [0, 1, 2, 3, 4, 5] 6 [0, 1, 2, 3, 4, 5, 6] rfl) $$ [F_got_rsR_1 P45]
  · isplitl [F_got_rsR_1] <;> iassumption
  ihave F_closed_rsR_1 := (bigSepL_snoc (fun k : Fin 32 => closedAt m K c 1 k rsR) [1, 2, 3, 4, 5] 6 [1, 2, 3, 4, 5, 6] rfl) $$ [F_closed_rsR_1 P46]
  · isplitl [F_closed_rsR_1] <;> iassumption
  -- k0_part67
  icases (bigSepL_pop (fun k : Fin 32 => recvRes m K rsR c 1 k) 7 8 [9, 10, 11, 12, 13, 14, 15, 16, 17, 18, 19, 20, 21, 22, 23, 24, 25, 26, 27, 28, 29, 30, 31]) $$ F_recvRes_rsR_1 with ⟨T47, F_recvRes_rsR_1⟩
  icases (bigSepL_pop (fun k : Fin 32 => recvRes m K rsR c 1 k) 8 9 [10, 11, 12, 13, 14, 15, 16, 17, 18, 19, 20, 21, 22, 23, 24, 25, 26, 27, 28, 29, 30, 31]) $$ F_recvRes_rsR_1 with ⟨T48, F_recvRes_rsR_1⟩
  icases (bigSepL_pop (fun k : Fin 32 => recvRes m K rsR c 1 k) 9 10 [11, 12, 13, 14, 15, 16, 17, 18, 19, 20, 21, 22, 23, 24, 25, 26, 27, 28, 29, 30, 31]) $$ F_recvRes_rsR_1 with ⟨T49, F_recvRes_rsR_1⟩
  rw [wp_bind]
  iapply (part67_spec' m K c _ (insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))
  isplitl [T47]
  · iexact T47
  isplitl [T48]
  · iexact T48
  isplitl [T49]
  · iexact T49
  isplitl []
  · iexact Hlev
  isplitl [H_owes]
  · iexact H_owes
  iintro %r ⟨P50, P51, P52, P53, P54, P55, H_owes⟩
  try dsimp only
  ihave F_got_rsR_1 := (bigSepL_snoc (fun k : Fin 32 => gotRsR m c 1 k) [0, 1, 2, 3, 4, 5, 6] 7 [0, 1, 2, 3, 4, 5, 6, 7] rfl) $$ [F_got_rsR_1 P50]
  · isplitl [F_got_rsR_1] <;> iassumption
  ihave F_closed_rsR_1 := (bigSepL_snoc (fun k : Fin 32 => closedAt m K c 1 k rsR) [1, 2, 3, 4, 5, 6] 7 [1, 2, 3, 4, 5, 6, 7] rfl) $$ [F_closed_rsR_1 P51]
  · isplitl [F_closed_rsR_1] <;> iassumption
  ihave F_got_rsR_1 := (bigSepL_snoc (fun k : Fin 32 => gotRsR m c 1 k) [0, 1, 2, 3, 4, 5, 6, 7] 8 [0, 1, 2, 3, 4, 5, 6, 7, 8] rfl) $$ [F_got_rsR_1 P52]
  · isplitl [F_got_rsR_1] <;> iassumption
  ihave F_closed_rsR_1 := (bigSepL_snoc (fun k : Fin 32 => closedAt m K c 1 k rsR) [1, 2, 3, 4, 5, 6, 7] 8 [1, 2, 3, 4, 5, 6, 7, 8] rfl) $$ [F_closed_rsR_1 P53]
  · isplitl [F_closed_rsR_1] <;> iassumption
  ihave F_got_rsR_1 := (bigSepL_snoc (fun k : Fin 32 => gotRsR m c 1 k) [0, 1, 2, 3, 4, 5, 6, 7, 8] 9 [0, 1, 2, 3, 4, 5, 6, 7, 8, 9] rfl) $$ [F_got_rsR_1 P54]
  · isplitl [F_got_rsR_1] <;> iassumption
  ihave F_closed_rsR_1 := (bigSepL_snoc (fun k : Fin 32 => closedAt m K c 1 k rsR) [1, 2, 3, 4, 5, 6, 7, 8] 9 [1, 2, 3, 4, 5, 6, 7, 8, 9] rfl) $$ [F_closed_rsR_1 P55]
  · isplitl [F_closed_rsR_1] <;> iassumption
  -- k0_part68
  icases (bigSepL_pop (fun k : Fin 32 => recvRes m K rsR c 1 k) 10 11 [12, 13, 14, 15, 16, 17, 18, 19, 20, 21, 22, 23, 24, 25, 26, 27, 28, 29, 30, 31]) $$ F_recvRes_rsR_1 with ⟨T56, F_recvRes_rsR_1⟩
  icases (bigSepL_pop (fun k : Fin 32 => recvRes m K rsR c 1 k) 11 12 [13, 14, 15, 16, 17, 18, 19, 20, 21, 22, 23, 24, 25, 26, 27, 28, 29, 30, 31]) $$ F_recvRes_rsR_1 with ⟨T57, F_recvRes_rsR_1⟩
  rw [wp_bind]
  iapply (part68_spec' m K c _ (insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))
  isplitl [T56]
  · iexact T56
  isplitl [T57]
  · iexact T57
  isplitl []
  · iexact Hlev
  isplitl [H_owes]
  · iexact H_owes
  iintro %v1759 ⟨P58, P59, P60, P61, H_owes⟩
  try dsimp only
  ihave F_got_rsR_1 := (bigSepL_snoc (fun k : Fin 32 => gotRsR m c 1 k) [0, 1, 2, 3, 4, 5, 6, 7, 8, 9] 10 [0, 1, 2, 3, 4, 5, 6, 7, 8, 9, 10] rfl) $$ [F_got_rsR_1 P58]
  · isplitl [F_got_rsR_1] <;> iassumption
  ihave F_closed_rsR_1 := (bigSepL_snoc (fun k : Fin 32 => closedAt m K c 1 k rsR) [1, 2, 3, 4, 5, 6, 7, 8, 9] 10 [1, 2, 3, 4, 5, 6, 7, 8, 9, 10] rfl) $$ [F_closed_rsR_1 P59]
  · isplitl [F_closed_rsR_1] <;> iassumption
  ihave F_got_rsR_1 := (bigSepL_snoc (fun k : Fin 32 => gotRsR m c 1 k) [0, 1, 2, 3, 4, 5, 6, 7, 8, 9, 10] 11 [0, 1, 2, 3, 4, 5, 6, 7, 8, 9, 10, 11] rfl) $$ [F_got_rsR_1 P60]
  · isplitl [F_got_rsR_1] <;> iassumption
  ihave F_closed_rsR_1 := (bigSepL_snoc (fun k : Fin 32 => closedAt m K c 1 k rsR) [1, 2, 3, 4, 5, 6, 7, 8, 9, 10] 11 [1, 2, 3, 4, 5, 6, 7, 8, 9, 10, 11] rfl) $$ [F_closed_rsR_1 P61]
  · isplitl [F_closed_rsR_1] <;> iassumption
  -- k0_part69
  icases (bigSepL_pop (fun k : Fin 32 => recvRes m K rsR c 1 k) 12 13 [14, 15, 16, 17, 18, 19, 20, 21, 22, 23, 24, 25, 26, 27, 28, 29, 30, 31]) $$ F_recvRes_rsR_1 with ⟨T62, F_recvRes_rsR_1⟩
  icases (bigSepL_pop (fun k : Fin 32 => recvRes m K rsR c 1 k) 13 14 [15, 16, 17, 18, 19, 20, 21, 22, 23, 24, 25, 26, 27, 28, 29, 30, 31]) $$ F_recvRes_rsR_1 with ⟨T63, F_recvRes_rsR_1⟩
  rw [wp_bind]
  iapply (part69_spec' m K c _ _ (insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))
  isplitl [T62]
  · iexact T62
  isplitl [T63]
  · iexact T63
  isplitl []
  · iexact Hlev
  isplitl [H_owes]
  · iexact H_owes
  iintro %v1782 ⟨P64, P65, P66, P67, H_owes⟩
  try dsimp only
  ihave F_got_rsR_1 := (bigSepL_snoc (fun k : Fin 32 => gotRsR m c 1 k) [0, 1, 2, 3, 4, 5, 6, 7, 8, 9, 10, 11] 12 [0, 1, 2, 3, 4, 5, 6, 7, 8, 9, 10, 11, 12] rfl) $$ [F_got_rsR_1 P64]
  · isplitl [F_got_rsR_1] <;> iassumption
  ihave F_closed_rsR_1 := (bigSepL_snoc (fun k : Fin 32 => closedAt m K c 1 k rsR) [1, 2, 3, 4, 5, 6, 7, 8, 9, 10, 11] 12 [1, 2, 3, 4, 5, 6, 7, 8, 9, 10, 11, 12] rfl) $$ [F_closed_rsR_1 P65]
  · isplitl [F_closed_rsR_1] <;> iassumption
  ihave F_got_rsR_1 := (bigSepL_snoc (fun k : Fin 32 => gotRsR m c 1 k) [0, 1, 2, 3, 4, 5, 6, 7, 8, 9, 10, 11, 12] 13 [0, 1, 2, 3, 4, 5, 6, 7, 8, 9, 10, 11, 12, 13] rfl) $$ [F_got_rsR_1 P66]
  · isplitl [F_got_rsR_1] <;> iassumption
  ihave F_closed_rsR_1 := (bigSepL_snoc (fun k : Fin 32 => closedAt m K c 1 k rsR) [1, 2, 3, 4, 5, 6, 7, 8, 9, 10, 11, 12] 13 [1, 2, 3, 4, 5, 6, 7, 8, 9, 10, 11, 12, 13] rfl) $$ [F_closed_rsR_1 P67]
  · isplitl [F_closed_rsR_1] <;> iassumption
  -- k0_part70
  icases (bigSepL_pop (fun k : Fin 32 => recvRes m K rsR c 1 k) 14 15 [16, 17, 18, 19, 20, 21, 22, 23, 24, 25, 26, 27, 28, 29, 30, 31]) $$ F_recvRes_rsR_1 with ⟨T68, F_recvRes_rsR_1⟩
  icases (bigSepL_pop (fun k : Fin 32 => recvRes m K rsR c 1 k) 15 16 [17, 18, 19, 20, 21, 22, 23, 24, 25, 26, 27, 28, 29, 30, 31]) $$ F_recvRes_rsR_1 with ⟨T69, F_recvRes_rsR_1⟩
  rw [wp_bind]
  iapply (part70_spec' m K c _ _ (insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))
  isplitl [T68]
  · iexact T68
  isplitl [T69]
  · iexact T69
  isplitl []
  · iexact Hlev
  isplitl [H_owes]
  · iexact H_owes
  iintro %v1805 ⟨P70, P71, P72, P73, H_owes⟩
  try dsimp only
  ihave F_got_rsR_1 := (bigSepL_snoc (fun k : Fin 32 => gotRsR m c 1 k) [0, 1, 2, 3, 4, 5, 6, 7, 8, 9, 10, 11, 12, 13] 14 [0, 1, 2, 3, 4, 5, 6, 7, 8, 9, 10, 11, 12, 13, 14] rfl) $$ [F_got_rsR_1 P70]
  · isplitl [F_got_rsR_1] <;> iassumption
  ihave F_closed_rsR_1 := (bigSepL_snoc (fun k : Fin 32 => closedAt m K c 1 k rsR) [1, 2, 3, 4, 5, 6, 7, 8, 9, 10, 11, 12, 13] 14 [1, 2, 3, 4, 5, 6, 7, 8, 9, 10, 11, 12, 13, 14] rfl) $$ [F_closed_rsR_1 P71]
  · isplitl [F_closed_rsR_1] <;> iassumption
  ihave F_got_rsR_1 := (bigSepL_snoc (fun k : Fin 32 => gotRsR m c 1 k) [0, 1, 2, 3, 4, 5, 6, 7, 8, 9, 10, 11, 12, 13, 14] 15 [0, 1, 2, 3, 4, 5, 6, 7, 8, 9, 10, 11, 12, 13, 14, 15] rfl) $$ [F_got_rsR_1 P72]
  · isplitl [F_got_rsR_1] <;> iassumption
  ihave F_closed_rsR_1 := (bigSepL_snoc (fun k : Fin 32 => closedAt m K c 1 k rsR) [1, 2, 3, 4, 5, 6, 7, 8, 9, 10, 11, 12, 13, 14] 15 [1, 2, 3, 4, 5, 6, 7, 8, 9, 10, 11, 12, 13, 14, 15] rfl) $$ [F_closed_rsR_1 P73]
  · isplitl [F_closed_rsR_1] <;> iassumption
  -- k0_part71
  icases (bigSepL_pop (fun k : Fin 32 => recvRes m K rsR c 1 k) 16 17 [18, 19, 20, 21, 22, 23, 24, 25, 26, 27, 28, 29, 30, 31]) $$ F_recvRes_rsR_1 with ⟨T74, F_recvRes_rsR_1⟩
  icases (bigSepL_pop (fun k : Fin 32 => recvRes m K rsR c 1 k) 17 18 [19, 20, 21, 22, 23, 24, 25, 26, 27, 28, 29, 30, 31]) $$ F_recvRes_rsR_1 with ⟨T75, F_recvRes_rsR_1⟩
  rw [wp_bind]
  iapply (part71_spec' m K c _ _ (insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))
  isplitl [T74]
  · iexact T74
  isplitl [T75]
  · iexact T75
  isplitl []
  · iexact Hlev
  isplitl [H_owes]
  · iexact H_owes
  iintro %v1827 ⟨P76, P77, P78, P79, H_owes⟩
  try dsimp only
  ihave F_got_rsR_1 := (bigSepL_snoc (fun k : Fin 32 => gotRsR m c 1 k) [0, 1, 2, 3, 4, 5, 6, 7, 8, 9, 10, 11, 12, 13, 14, 15] 16 [0, 1, 2, 3, 4, 5, 6, 7, 8, 9, 10, 11, 12, 13, 14, 15, 16] rfl) $$ [F_got_rsR_1 P76]
  · isplitl [F_got_rsR_1] <;> iassumption
  ihave F_closed_rsR_1 := (bigSepL_snoc (fun k : Fin 32 => closedAt m K c 1 k rsR) [1, 2, 3, 4, 5, 6, 7, 8, 9, 10, 11, 12, 13, 14, 15] 16 [1, 2, 3, 4, 5, 6, 7, 8, 9, 10, 11, 12, 13, 14, 15, 16] rfl) $$ [F_closed_rsR_1 P77]
  · isplitl [F_closed_rsR_1] <;> iassumption
  ihave F_got_rsR_1 := (bigSepL_snoc (fun k : Fin 32 => gotRsR m c 1 k) [0, 1, 2, 3, 4, 5, 6, 7, 8, 9, 10, 11, 12, 13, 14, 15, 16] 17 [0, 1, 2, 3, 4, 5, 6, 7, 8, 9, 10, 11, 12, 13, 14, 15, 16, 17] rfl) $$ [F_got_rsR_1 P78]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16] 17 [1, 2, 3, 4, 5, 6, 7, 8, 9, 10, 11, 12, 13, 14, 15, 16, 17] rfl) $$ [F_closed_rsR_1 P79]
  · isplitl [F_closed_rsR_1] <;> iassumption
  -- k0_part72
  icases (bigSepL_pop (fun k : Fin 32 => recvRes m K rsR c 1 k) 18 19 [20, 21, 22, 23, 24, 25, 26, 27, 28, 29, 30, 31]) $$ F_recvRes_rsR_1 with ⟨T80, F_recvRes_rsR_1⟩
  icases (bigSepL_pop (fun k : Fin 32 => recvRes m K rsR c 1 k) 19 20 [21, 22, 23, 24, 25, 26, 27, 28, 29, 30, 31]) $$ F_recvRes_rsR_1 with ⟨T81, F_recvRes_rsR_1⟩
  rw [wp_bind]
  iapply (part72_spec' m K c _ _ (insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))
  isplitl [T80]
  · iexact T80
  isplitl [T81]
  · iexact T81
  isplitl []
  · iexact Hlev
  isplitl [H_owes]
  · iexact H_owes
  iintro %v1849 ⟨P82, P83, P84, P85, H_owes⟩
  try dsimp only
  ihave F_got_rsR_1 := (bigSepL_snoc (fun k : Fin 32 => gotRsR m c 1 k) [0, 1, 2, 3, 4, 5, 6, 7, 8, 9, 10, 11, 12, 13, 14, 15, 16, 17] 18 [0, 1, 2, 3, 4, 5, 6, 7, 8, 9, 10, 11, 12, 13, 14, 15, 16, 17, 18] rfl) $$ [F_got_rsR_1 P82]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17] 18 [1, 2, 3, 4, 5, 6, 7, 8, 9, 10, 11, 12, 13, 14, 15, 16, 17, 18] rfl) $$ [F_closed_rsR_1 P83]
  · isplitl [F_closed_rsR_1] <;> iassumption
  ihave F_got_rsR_1 := (bigSepL_snoc (fun k : Fin 32 => gotRsR m c 1 k) [0, 1, 2, 3, 4, 5, 6, 7, 8, 9, 10, 11, 12, 13, 14, 15, 16, 17, 18] 19 [0, 1, 2, 3, 4, 5, 6, 7, 8, 9, 10, 11, 12, 13, 14, 15, 16, 17, 18, 19] rfl) $$ [F_got_rsR_1 P84]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_closed_rsR_1 P85]
  · isplitl [F_closed_rsR_1] <;> iassumption
  -- k0_part73
  icases (bigSepL_pop (fun k : Fin 32 => recvRes m K rsR c 1 k) 20 21 [22, 23, 24, 25, 26, 27, 28, 29, 30, 31]) $$ F_recvRes_rsR_1 with ⟨T86, F_recvRes_rsR_1⟩
  icases (bigSepL_pop (fun k : Fin 32 => recvRes m K rsR c 1 k) 21 22 [23, 24, 25, 26, 27, 28, 29, 30, 31]) $$ F_recvRes_rsR_1 with ⟨T87, F_recvRes_rsR_1⟩
  rw [wp_bind]
  iapply (part73_spec' m K c _ _ (insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))
  isplitl [T86]
  · iexact T86
  isplitl [T87]
  · iexact T87
  isplitl []
  · iexact Hlev
  isplitl [H_owes]
  · iexact H_owes
  iintro %v1871 ⟨P88, P89, P90, P91, H_owes⟩
  try dsimp only
  ihave F_got_rsR_1 := (bigSepL_snoc (fun k : Fin 32 => gotRsR m c 1 k) [0, 1, 2, 3, 4, 5, 6, 7, 8, 9, 10, 11, 12, 13, 14, 15, 16, 17, 18, 19] 20 [0, 1, 2, 3, 4, 5, 6, 7, 8, 9, 10, 11, 12, 13, 14, 15, 16, 17, 18, 19, 20] rfl) $$ [F_got_rsR_1 P88]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_closed_rsR_1 P89]
  · isplitl [F_closed_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20] 21 [0, 1, 2, 3, 4, 5, 6, 7, 8, 9, 10, 11, 12, 13, 14, 15, 16, 17, 18, 19, 20, 21] rfl) $$ [F_got_rsR_1 P90]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_closed_rsR_1 P91]
  · isplitl [F_closed_rsR_1] <;> iassumption
  -- k0_part74
  icases (bigSepL_pop (fun k : Fin 32 => recvRes m K rsR c 1 k) 22 23 [24, 25, 26, 27, 28, 29, 30, 31]) $$ F_recvRes_rsR_1 with ⟨T92, F_recvRes_rsR_1⟩
  icases (bigSepL_pop (fun k : Fin 32 => recvRes m K rsR c 1 k) 23 24 [25, 26, 27, 28, 29, 30, 31]) $$ F_recvRes_rsR_1 with ⟨T93, F_recvRes_rsR_1⟩
  rw [wp_bind]
  iapply (part74_spec' m K c _ _ (insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))
  isplitl [T92]
  · iexact T92
  isplitl [T93]
  · iexact T93
  isplitl []
  · iexact Hlev
  isplitl [H_owes]
  · iexact H_owes
  iintro %v1893 ⟨P94, P95, P96, P97, H_owes⟩
  try dsimp only
  ihave F_got_rsR_1 := (bigSepL_snoc (fun k : Fin 32 => gotRsR m c 1 k) [0, 1, 2, 3, 4, 5, 6, 7, 8, 9, 10, 11, 12, 13, 14, 15, 16, 17, 18, 19, 20, 21] 22 [0, 1, 2, 3, 4, 5, 6, 7, 8, 9, 10, 11, 12, 13, 14, 15, 16, 17, 18, 19, 20, 21, 22] rfl) $$ [F_got_rsR_1 P94]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_closed_rsR_1 P95]
  · isplitl [F_closed_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22] 23 [0, 1, 2, 3, 4, 5, 6, 7, 8, 9, 10, 11, 12, 13, 14, 15, 16, 17, 18, 19, 20, 21, 22, 23] rfl) $$ [F_got_rsR_1 P96]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_closed_rsR_1 P97]
  · isplitl [F_closed_rsR_1] <;> iassumption
  -- k0_part75
  icases (bigSepL_pop (fun k : Fin 32 => recvRes m K rsR c 1 k) 24 25 [26, 27, 28, 29, 30, 31]) $$ F_recvRes_rsR_1 with ⟨T98, F_recvRes_rsR_1⟩
  icases (bigSepL_pop (fun k : Fin 32 => recvRes m K rsR c 1 k) 25 26 [27, 28, 29, 30, 31]) $$ F_recvRes_rsR_1 with ⟨T99, F_recvRes_rsR_1⟩
  rw [wp_bind]
  iapply (part75_spec' m K c _ _ (insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))
  isplitl [T98]
  · iexact T98
  isplitl [T99]
  · iexact T99
  isplitl []
  · iexact Hlev
  isplitl [H_owes]
  · iexact H_owes
  iintro %v1916 ⟨P100, P101, P102, P103, H_owes⟩
  try dsimp only
  ihave F_got_rsR_1 := (bigSepL_snoc (fun k : Fin 32 => gotRsR m c 1 k) [0, 1, 2, 3, 4, 5, 6, 7, 8, 9, 10, 11, 12, 13, 14, 15, 16, 17, 18, 19, 20, 21, 22, 23] 24 [0, 1, 2, 3, 4, 5, 6, 7, 8, 9, 10, 11, 12, 13, 14, 15, 16, 17, 18, 19, 20, 21, 22, 23, 24] rfl) $$ [F_got_rsR_1 P100]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_closed_rsR_1 P101]
  · isplitl [F_closed_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24] 25 [0, 1, 2, 3, 4, 5, 6, 7, 8, 9, 10, 11, 12, 13, 14, 15, 16, 17, 18, 19, 20, 21, 22, 23, 24, 25] rfl) $$ [F_got_rsR_1 P102]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_closed_rsR_1 P103]
  · isplitl [F_closed_rsR_1] <;> iassumption
  -- k0_part76
  icases (bigSepL_pop (fun k : Fin 32 => recvRes m K rsR c 1 k) 26 27 [28, 29, 30, 31]) $$ F_recvRes_rsR_1 with ⟨T104, F_recvRes_rsR_1⟩
  icases (bigSepL_pop (fun k : Fin 32 => recvRes m K rsR c 1 k) 27 28 [29, 30, 31]) $$ F_recvRes_rsR_1 with ⟨T105, F_recvRes_rsR_1⟩
  rw [wp_bind]
  iapply (part76_spec' m K c _ _ (insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))
  isplitl [T104]
  · iexact T104
  isplitl [T105]
  · iexact T105
  isplitl []
  · iexact Hlev
  isplitl [H_owes]
  · iexact H_owes
  iintro %r ⟨P106, P107, P108, P109, H_owes⟩
  try dsimp only
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25] 26 [0, 1, 2, 3, 4, 5, 6, 7, 8, 9, 10, 11, 12, 13, 14, 15, 16, 17, 18, 19, 20, 21, 22, 23, 24, 25, 26] rfl) $$ [F_got_rsR_1 P106]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_closed_rsR_1 P107]
  · isplitl [F_closed_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25, 26] 27 [0, 1, 2, 3, 4, 5, 6, 7, 8, 9, 10, 11, 12, 13, 14, 15, 16, 17, 18, 19, 20, 21, 22, 23, 24, 25, 26, 27] rfl) $$ [F_got_rsR_1 P108]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_closed_rsR_1 P109]
  · isplitl [F_closed_rsR_1] <;> iassumption
  -- k0_part77
  icases (bigSepL_pop (fun k : Fin 32 => recvRes m K rsR c 1 k) 28 29 [30, 31]) $$ F_recvRes_rsR_1 with ⟨T110, F_recvRes_rsR_1⟩
  icases (bigSepL_pop (fun k : Fin 32 => recvRes m K rsR c 1 k) 29 30 [31]) $$ F_recvRes_rsR_1 with ⟨T111, F_recvRes_rsR_1⟩
  rw [wp_bind]
  iapply (part77_spec' m K c _ (insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))
  isplitl [T110]
  · iexact T110
  isplitl [T111]
  · iexact T111
  isplitl []
  · iexact Hlev
  isplitl [H_owes]
  · iexact H_owes
  iintro %r ⟨P112, P113, P114, P115, H_owes⟩
  try dsimp only
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25, 26, 27] 28 [0, 1, 2, 3, 4, 5, 6, 7, 8, 9, 10, 11, 12, 13, 14, 15, 16, 17, 18, 19, 20, 21, 22, 23, 24, 25, 26, 27, 28] rfl) $$ [F_got_rsR_1 P112]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_closed_rsR_1 P113]
  · isplitl [F_closed_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25, 26, 27, 28] 29 [0, 1, 2, 3, 4, 5, 6, 7, 8, 9, 10, 11, 12, 13, 14, 15, 16, 17, 18, 19, 20, 21, 22, 23, 24, 25, 26, 27, 28, 29] rfl) $$ [F_got_rsR_1 P114]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_closed_rsR_1 P115]
  · isplitl [F_closed_rsR_1] <;> iassumption
  -- k0_part78
  icases (bigSepL_pop (fun k : Fin 32 => recvRes m K rsR c 1 k) 30 31 []) $$ F_recvRes_rsR_1 with ⟨T116, F_recvRes_rsR_1⟩
  ihave T117 := (bigSepL_one (fun k : Fin 32 => recvRes m K rsR c 1 k) 31) $$ F_recvRes_rsR_1
  icases (bigSepL_pop (fun k : Fin 32 => gotRsR m c 1 k) 0 1 [2, 3, 4, 5, 6, 7, 8, 9, 10, 11, 12, 13, 14, 15, 16, 17, 18, 19, 20, 21, 22, 23, 24, 25, 26, 27, 28, 29]) $$ F_got_rsR_1 with ⟨T118, F_got_rsR_1⟩
  icases (bigSepL_pop (fun k : Fin 32 => gotRsR m c 1 k) 1 2 [3, 4, 5, 6, 7, 8, 9, 10, 11, 12, 13, 14, 15, 16, 17, 18, 19, 20, 21, 22, 23, 24, 25, 26, 27, 28, 29]) $$ F_got_rsR_1 with ⟨T119, F_got_rsR_1⟩
  icases (bigSepL_pop (fun k : Fin 32 => gotRsR m c 1 k) 2 3 [4, 5, 6, 7, 8, 9, 10, 11, 12, 13, 14, 15, 16, 17, 18, 19, 20, 21, 22, 23, 24, 25, 26, 27, 28, 29]) $$ F_got_rsR_1 with ⟨T120, F_got_rsR_1⟩
  icases (bigSepL_pop (fun k : Fin 32 => gotRsR m c 1 k) 3 4 [5, 6, 7, 8, 9, 10, 11, 12, 13, 14, 15, 16, 17, 18, 19, 20, 21, 22, 23, 24, 25, 26, 27, 28, 29]) $$ F_got_rsR_1 with ⟨T121, F_got_rsR_1⟩
  icases (bigSepL_pop (fun k : Fin 32 => gotRsR m c 1 k) 4 5 [6, 7, 8, 9, 10, 11, 12, 13, 14, 15, 16, 17, 18, 19, 20, 21, 22, 23, 24, 25, 26, 27, 28, 29]) $$ F_got_rsR_1 with ⟨T122, F_got_rsR_1⟩
  icases (bigSepL_pop (fun k : Fin 32 => gotRsR m c 1 k) 5 6 [7, 8, 9, 10, 11, 12, 13, 14, 15, 16, 17, 18, 19, 20, 21, 22, 23, 24, 25, 26, 27, 28, 29]) $$ F_got_rsR_1 with ⟨T123, F_got_rsR_1⟩
  icases (bigSepL_pop (fun k : Fin 32 => gotRsR m c 1 k) 6 7 [8, 9, 10, 11, 12, 13, 14, 15, 16, 17, 18, 19, 20, 21, 22, 23, 24, 25, 26, 27, 28, 29]) $$ F_got_rsR_1 with ⟨T124, F_got_rsR_1⟩
  icases (bigSepL_pop (fun k : Fin 32 => gotRsR m c 1 k) 7 8 [9, 10, 11, 12, 13, 14, 15, 16, 17, 18, 19, 20, 21, 22, 23, 24, 25, 26, 27, 28, 29]) $$ F_got_rsR_1 with ⟨T125, F_got_rsR_1⟩
  icases (bigSepL_pop (fun k : Fin 32 => gotRsR m c 1 k) 8 9 [10, 11, 12, 13, 14, 15, 16, 17, 18, 19, 20, 21, 22, 23, 24, 25, 26, 27, 28, 29]) $$ F_got_rsR_1 with ⟨T126, F_got_rsR_1⟩
  icases (bigSepL_pop (fun k : Fin 32 => gotRsR m c 1 k) 9 10 [11, 12, 13, 14, 15, 16, 17, 18, 19, 20, 21, 22, 23, 24, 25, 26, 27, 28, 29]) $$ F_got_rsR_1 with ⟨T127, F_got_rsR_1⟩
  icases (bigSepL_pop (fun k : Fin 32 => gotRsR m c 1 k) 10 11 [12, 13, 14, 15, 16, 17, 18, 19, 20, 21, 22, 23, 24, 25, 26, 27, 28, 29]) $$ F_got_rsR_1 with ⟨T128, F_got_rsR_1⟩
  icases (bigSepL_pop (fun k : Fin 32 => gotRsR m c 1 k) 11 12 [13, 14, 15, 16, 17, 18, 19, 20, 21, 22, 23, 24, 25, 26, 27, 28, 29]) $$ F_got_rsR_1 with ⟨T129, F_got_rsR_1⟩
  icases (bigSepL_pop (fun k : Fin 32 => gotRsR m c 1 k) 12 13 [14, 15, 16, 17, 18, 19, 20, 21, 22, 23, 24, 25, 26, 27, 28, 29]) $$ F_got_rsR_1 with ⟨T130, F_got_rsR_1⟩
  icases (bigSepL_pop (fun k : Fin 32 => gotRsR m c 1 k) 13 14 [15, 16, 17, 18, 19, 20, 21, 22, 23, 24, 25, 26, 27, 28, 29]) $$ F_got_rsR_1 with ⟨T131, F_got_rsR_1⟩
  icases (bigSepL_pop (fun k : Fin 32 => gotRsR m c 1 k) 14 15 [16, 17, 18, 19, 20, 21, 22, 23, 24, 25, 26, 27, 28, 29]) $$ F_got_rsR_1 with ⟨T132, F_got_rsR_1⟩
  icases (bigSepL_pop (fun k : Fin 32 => gotRsR m c 1 k) 15 16 [17, 18, 19, 20, 21, 22, 23, 24, 25, 26, 27, 28, 29]) $$ F_got_rsR_1 with ⟨T133, F_got_rsR_1⟩
  icases (bigSepL_pop (fun k : Fin 32 => gotRsR m c 1 k) 16 17 [18, 19, 20, 21, 22, 23, 24, 25, 26, 27, 28, 29]) $$ F_got_rsR_1 with ⟨T134, F_got_rsR_1⟩
  icases (bigSepL_pop (fun k : Fin 32 => gotRsR m c 1 k) 17 18 [19, 20, 21, 22, 23, 24, 25, 26, 27, 28, 29]) $$ F_got_rsR_1 with ⟨T135, F_got_rsR_1⟩
  icases (bigSepL_pop (fun k : Fin 32 => gotRsR m c 1 k) 18 19 [20, 21, 22, 23, 24, 25, 26, 27, 28, 29]) $$ F_got_rsR_1 with ⟨T136, F_got_rsR_1⟩
  icases (bigSepL_pop (fun k : Fin 32 => gotRsR m c 1 k) 19 20 [21, 22, 23, 24, 25, 26, 27, 28, 29]) $$ F_got_rsR_1 with ⟨T137, F_got_rsR_1⟩
  icases (bigSepL_pop (fun k : Fin 32 => gotRsR m c 1 k) 20 21 [22, 23, 24, 25, 26, 27, 28, 29]) $$ F_got_rsR_1 with ⟨T138, F_got_rsR_1⟩
  icases (bigSepL_pop (fun k : Fin 32 => gotRsR m c 1 k) 21 22 [23, 24, 25, 26, 27, 28, 29]) $$ F_got_rsR_1 with ⟨T139, F_got_rsR_1⟩
  icases (bigSepL_pop (fun k : Fin 32 => gotRsR m c 1 k) 22 23 [24, 25, 26, 27, 28, 29]) $$ F_got_rsR_1 with ⟨T140, F_got_rsR_1⟩
  icases (bigSepL_pop (fun k : Fin 32 => gotRsR m c 1 k) 23 24 [25, 26, 27, 28, 29]) $$ F_got_rsR_1 with ⟨T141, F_got_rsR_1⟩
  icases (bigSepL_pop (fun k : Fin 32 => gotRsR m c 1 k) 24 25 [26, 27, 28, 29]) $$ F_got_rsR_1 with ⟨T142, F_got_rsR_1⟩
  icases (bigSepL_pop (fun k : Fin 32 => gotRsR m c 1 k) 25 26 [27, 28, 29]) $$ F_got_rsR_1 with ⟨T143, F_got_rsR_1⟩
  icases (bigSepL_pop (fun k : Fin 32 => gotRsR m c 1 k) 26 27 [28, 29]) $$ F_got_rsR_1 with ⟨T144, F_got_rsR_1⟩
  icases (bigSepL_pop (fun k : Fin 32 => gotRsR m c 1 k) 27 28 [29]) $$ F_got_rsR_1 with ⟨T145, F_got_rsR_1⟩
  icases (bigSepL_pop (fun k : Fin 32 => gotRsR m c 1 k) 28 29 []) $$ F_got_rsR_1 with ⟨T146, F_got_rsR_1⟩
  ihave T147 := (bigSepL_one (fun k : Fin 32 => gotRsR m c 1 k) 29) $$ F_got_rsR_1
  rw [wp_bind]
  iapply (part78_spec' m K c _ (insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))
  isplitl [T116]
  · iexact T116
  isplitl [T117]
  · iexact T117
  isplitl []
  · iexact Hlev
  isplitl [T118]
  · iexact T118
  isplitl [T119]
  · iexact T119
  isplitl [T120]
  · iexact T120
  isplitl [T121]
  · iexact T121
  isplitl [T122]
  · iexact T122
  isplitl [T123]
  · iexact T123
  isplitl [T124]
  · iexact T124
  isplitl [T125]
  · iexact T125
  isplitl [T126]
  · iexact T126
  isplitl [T127]
  · iexact T127
  isplitl [T128]
  · iexact T128
  isplitl [T129]
  · iexact T129
  isplitl [T130]
  · iexact T130
  isplitl [T131]
  · iexact T131
  isplitl [T132]
  · iexact T132
  isplitl [T133]
  · iexact T133
  isplitl [T134]
  · iexact T134
  isplitl [T135]
  · iexact T135
  isplitl [T136]
  · iexact T136
  isplitl [T137]
  · iexact T137
  isplitl [T138]
  · iexact T138
  isplitl [T139]
  · iexact T139
  isplitl [T140]
  · iexact T140
  isplitl [T141]
  · iexact T141
  isplitl [T142]
  · iexact T142
  isplitl [T143]
  · iexact T143
  isplitl [T144]
  · iexact T144
  isplitl [T145]
  · iexact T145
  isplitl [T146]
  · iexact T146
  isplitl [T147]
  · iexact T147
  isplitl [H_owes]
  · iexact H_owes
  iintro  ⟨P148, P149, P150, P151, P152, P153, P154, P155, P156, P157, P158, P159, P160, P161, P162, P163, P164, P165, P166, P167, P168, P169, P170, P171, P172, P173, P174, P175, P176, P177, P178, P179, P180, P181, H_owes⟩
  try dsimp only
  ihave F_got_rsR_1 := (bigSepL_wrap (fun k : Fin 32 => gotRsR m c 1 k) 0) $$ P148
  ihave F_got_rsR_1 := (bigSepL_snoc (fun k : Fin 32 => gotRsR m c 1 k) [0] 1 [0, 1] rfl) $$ [F_got_rsR_1 P149]
  · isplitl [F_got_rsR_1] <;> iassumption
  ihave F_got_rsR_1 := (bigSepL_snoc (fun k : Fin 32 => gotRsR m c 1 k) [0, 1] 2 [0, 1, 2] rfl) $$ [F_got_rsR_1 P150]
  · isplitl [F_got_rsR_1] <;> iassumption
  ihave F_got_rsR_1 := (bigSepL_snoc (fun k : Fin 32 => gotRsR m c 1 k) [0, 1, 2] 3 [0, 1, 2, 3] rfl) $$ [F_got_rsR_1 P151]
  · isplitl [F_got_rsR_1] <;> iassumption
  ihave F_got_rsR_1 := (bigSepL_snoc (fun k : Fin 32 => gotRsR m c 1 k) [0, 1, 2, 3] 4 [0, 1, 2, 3, 4] rfl) $$ [F_got_rsR_1 P152]
  · isplitl [F_got_rsR_1] <;> iassumption
  ihave F_got_rsR_1 := (bigSepL_snoc (fun k : Fin 32 => gotRsR m c 1 k) [0, 1, 2, 3, 4] 5 [0, 1, 2, 3, 4, 5] rfl) $$ [F_got_rsR_1 P153]
  · isplitl [F_got_rsR_1] <;> iassumption
  ihave F_got_rsR_1 := (bigSepL_snoc (fun k : Fin 32 => gotRsR m c 1 k) [0, 1, 2, 3, 4, 5] 6 [0, 1, 2, 3, 4, 5, 6] rfl) $$ [F_got_rsR_1 P154]
  · isplitl [F_got_rsR_1] <;> iassumption
  ihave F_got_rsR_1 := (bigSepL_snoc (fun k : Fin 32 => gotRsR m c 1 k) [0, 1, 2, 3, 4, 5, 6] 7 [0, 1, 2, 3, 4, 5, 6, 7] rfl) $$ [F_got_rsR_1 P155]
  · isplitl [F_got_rsR_1] <;> iassumption
  ihave F_got_rsR_1 := (bigSepL_snoc (fun k : Fin 32 => gotRsR m c 1 k) [0, 1, 2, 3, 4, 5, 6, 7] 8 [0, 1, 2, 3, 4, 5, 6, 7, 8] rfl) $$ [F_got_rsR_1 P156]
  · isplitl [F_got_rsR_1] <;> iassumption
  ihave F_got_rsR_1 := (bigSepL_snoc (fun k : Fin 32 => gotRsR m c 1 k) [0, 1, 2, 3, 4, 5, 6, 7, 8] 9 [0, 1, 2, 3, 4, 5, 6, 7, 8, 9] rfl) $$ [F_got_rsR_1 P157]
  · isplitl [F_got_rsR_1] <;> iassumption
  ihave F_got_rsR_1 := (bigSepL_snoc (fun k : Fin 32 => gotRsR m c 1 k) [0, 1, 2, 3, 4, 5, 6, 7, 8, 9] 10 [0, 1, 2, 3, 4, 5, 6, 7, 8, 9, 10] rfl) $$ [F_got_rsR_1 P158]
  · isplitl [F_got_rsR_1] <;> iassumption
  ihave F_got_rsR_1 := (bigSepL_snoc (fun k : Fin 32 => gotRsR m c 1 k) [0, 1, 2, 3, 4, 5, 6, 7, 8, 9, 10] 11 [0, 1, 2, 3, 4, 5, 6, 7, 8, 9, 10, 11] rfl) $$ [F_got_rsR_1 P159]
  · isplitl [F_got_rsR_1] <;> iassumption
  ihave F_got_rsR_1 := (bigSepL_snoc (fun k : Fin 32 => gotRsR m c 1 k) [0, 1, 2, 3, 4, 5, 6, 7, 8, 9, 10, 11] 12 [0, 1, 2, 3, 4, 5, 6, 7, 8, 9, 10, 11, 12] rfl) $$ [F_got_rsR_1 P160]
  · isplitl [F_got_rsR_1] <;> iassumption
  ihave F_got_rsR_1 := (bigSepL_snoc (fun k : Fin 32 => gotRsR m c 1 k) [0, 1, 2, 3, 4, 5, 6, 7, 8, 9, 10, 11, 12] 13 [0, 1, 2, 3, 4, 5, 6, 7, 8, 9, 10, 11, 12, 13] rfl) $$ [F_got_rsR_1 P161]
  · isplitl [F_got_rsR_1] <;> iassumption
  ihave F_got_rsR_1 := (bigSepL_snoc (fun k : Fin 32 => gotRsR m c 1 k) [0, 1, 2, 3, 4, 5, 6, 7, 8, 9, 10, 11, 12, 13] 14 [0, 1, 2, 3, 4, 5, 6, 7, 8, 9, 10, 11, 12, 13, 14] rfl) $$ [F_got_rsR_1 P162]
  · isplitl [F_got_rsR_1] <;> iassumption
  ihave F_got_rsR_1 := (bigSepL_snoc (fun k : Fin 32 => gotRsR m c 1 k) [0, 1, 2, 3, 4, 5, 6, 7, 8, 9, 10, 11, 12, 13, 14] 15 [0, 1, 2, 3, 4, 5, 6, 7, 8, 9, 10, 11, 12, 13, 14, 15] rfl) $$ [F_got_rsR_1 P163]
  · isplitl [F_got_rsR_1] <;> iassumption
  ihave F_got_rsR_1 := (bigSepL_snoc (fun k : Fin 32 => gotRsR m c 1 k) [0, 1, 2, 3, 4, 5, 6, 7, 8, 9, 10, 11, 12, 13, 14, 15] 16 [0, 1, 2, 3, 4, 5, 6, 7, 8, 9, 10, 11, 12, 13, 14, 15, 16] rfl) $$ [F_got_rsR_1 P164]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16] 17 [0, 1, 2, 3, 4, 5, 6, 7, 8, 9, 10, 11, 12, 13, 14, 15, 16, 17] rfl) $$ [F_got_rsR_1 P165]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17] 18 [0, 1, 2, 3, 4, 5, 6, 7, 8, 9, 10, 11, 12, 13, 14, 15, 16, 17, 18] rfl) $$ [F_got_rsR_1 P166]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18] 19 [0, 1, 2, 3, 4, 5, 6, 7, 8, 9, 10, 11, 12, 13, 14, 15, 16, 17, 18, 19] rfl) $$ [F_got_rsR_1 P167]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19] 20 [0, 1, 2, 3, 4, 5, 6, 7, 8, 9, 10, 11, 12, 13, 14, 15, 16, 17, 18, 19, 20] rfl) $$ [F_got_rsR_1 P168]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20] 21 [0, 1, 2, 3, 4, 5, 6, 7, 8, 9, 10, 11, 12, 13, 14, 15, 16, 17, 18, 19, 20, 21] rfl) $$ [F_got_rsR_1 P169]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21] 22 [0, 1, 2, 3, 4, 5, 6, 7, 8, 9, 10, 11, 12, 13, 14, 15, 16, 17, 18, 19, 20, 21, 22] rfl) $$ [F_got_rsR_1 P170]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22] 23 [0, 1, 2, 3, 4, 5, 6, 7, 8, 9, 10, 11, 12, 13, 14, 15, 16, 17, 18, 19, 20, 21, 22, 23] rfl) $$ [F_got_rsR_1 P171]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23] 24 [0, 1, 2, 3, 4, 5, 6, 7, 8, 9, 10, 11, 12, 13, 14, 15, 16, 17, 18, 19, 20, 21, 22, 23, 24] rfl) $$ [F_got_rsR_1 P172]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24] 25 [0, 1, 2, 3, 4, 5, 6, 7, 8, 9, 10, 11, 12, 13, 14, 15, 16, 17, 18, 19, 20, 21, 22, 23, 24, 25] rfl) $$ [F_got_rsR_1 P173]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25] 26 [0, 1, 2, 3, 4, 5, 6, 7, 8, 9, 10, 11, 12, 13, 14, 15, 16, 17, 18, 19, 20, 21, 22, 23, 24, 25, 26] rfl) $$ [F_got_rsR_1 P174]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25, 26] 27 [0, 1, 2, 3, 4, 5, 6, 7, 8, 9, 10, 11, 12, 13, 14, 15, 16, 17, 18, 19, 20, 21, 22, 23, 24, 25, 26, 27] rfl) $$ [F_got_rsR_1 P175]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25, 26, 27] 28 [0, 1, 2, 3, 4, 5, 6, 7, 8, 9, 10, 11, 12, 13, 14, 15, 16, 17, 18, 19, 20, 21, 22, 23, 24, 25, 26, 27, 28] rfl) $$ [F_got_rsR_1 P176]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25, 26, 27, 28] 29 [0, 1, 2, 3, 4, 5, 6, 7, 8, 9, 10, 11, 12, 13, 14, 15, 16, 17, 18, 19, 20, 21, 22, 23, 24, 25, 26, 27, 28, 29] rfl) $$ [F_got_rsR_1 P177]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25, 26, 27, 28, 29] 30 [0, 1, 2, 3, 4, 5, 6, 7, 8, 9, 10, 11, 12, 13, 14, 15, 16, 17, 18, 19, 20, 21, 22, 23, 24, 25, 26, 27, 28, 29, 30] rfl) $$ [F_got_rsR_1 P178]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25, 26, 27, 28, 29, 30] 31 [0, 1, 2, 3, 4, 5, 6, 7, 8, 9, 10, 11, 12, 13, 14, 15, 16, 17, 18, 19, 20, 21, 22, 23, 24, 25, 26, 27, 28, 29, 30, 31] rfl) $$ [F_got_rsR_1 P179]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_closed_rsR_1 P180]
  · isplitl [F_closed_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_closed_rsR_1 P181]
  · isplitl [F_closed_rsR_1] <;> iassumption
  -- k0_part79
  ihave T182 := (bigSepL_one (fun k : Fin 32 => outAt c 1 k fo) 0) $$ F_out0_1
  icases (bigSepL_pop (fun k : Fin 32 => copyRes m K agS agR c 1 k) 1 2 [3, 4, 5, 6, 7, 8, 9, 10, 11, 12, 13, 14, 15, 16, 17, 18, 19, 20, 21, 22, 23, 24, 25, 26, 27, 28, 29, 30, 31]) $$ F_copyRes_agS_1 with ⟨T183, F_copyRes_agS_1⟩
  icases (bigSepL_pop (fun k : Fin 32 => peerOutAt c 1 k) 1 2 [3, 4, 5, 6, 7, 8, 9, 10, 11, 12, 13, 14, 15, 16, 17, 18, 19, 20, 21, 22, 23, 24, 25, 26, 27, 28, 29, 30, 31]) $$ F_peerOut_1 with ⟨T184, F_peerOut_1⟩
  rw [owed_step_124 c]
  rw [wp_bind]
  iapply (part79_spec' m K c _ fo (owedAfter c 125) (insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))
  isplitl [T182]
  · iexact T182
  isplitl [T183]
  · iexact T183
  isplitl [T184]
  · iexact T184
  isplitl [H_owes]
  · iexact H_owes
  iintro %r ⟨P185, P186, P187, P188, P189, P190, P191, P192, P193, P194, P195, P196, P197, P198, P199, P200, P201, P202, P203, P204, P205, P206, P207, P208, P209, P210, P211, P212, P213, P214, P215, P216, H_owes⟩
  try dsimp only
  ihave F_outShare0_1 := (bigSepL_wrap (fun k : Fin 32 => outShareAt m c 1 k) 0) $$ P185
  ihave F_outShare_1 := (bigSepL_wrap (fun k : Fin 32 => outShareAt m c 1 k) 2) $$ P186
  ihave F_outShare_1 := (bigSepL_snoc (fun k : Fin 32 => outShareAt m c 1 k) [2] 3 [2, 3] rfl) $$ [F_outShare_1 P187]
  · isplitl [F_outShare_1] <;> iassumption
  ihave F_outShare_1 := (bigSepL_snoc (fun k : Fin 32 => outShareAt m c 1 k) [2, 3] 4 [2, 3, 4] rfl) $$ [F_outShare_1 P188]
  · isplitl [F_outShare_1] <;> iassumption
  ihave F_outShare_1 := (bigSepL_snoc (fun k : Fin 32 => outShareAt m c 1 k) [2, 3, 4] 5 [2, 3, 4, 5] rfl) $$ [F_outShare_1 P189]
  · isplitl [F_outShare_1] <;> iassumption
  ihave F_outShare_1 := (bigSepL_snoc (fun k : Fin 32 => outShareAt m c 1 k) [2, 3, 4, 5] 6 [2, 3, 4, 5, 6] rfl) $$ [F_outShare_1 P190]
  · isplitl [F_outShare_1] <;> iassumption
  ihave F_outShare_1 := (bigSepL_snoc (fun k : Fin 32 => outShareAt m c 1 k) [2, 3, 4, 5, 6] 7 [2, 3, 4, 5, 6, 7] rfl) $$ [F_outShare_1 P191]
  · isplitl [F_outShare_1] <;> iassumption
  ihave F_outShare_1 := (bigSepL_snoc (fun k : Fin 32 => outShareAt m c 1 k) [2, 3, 4, 5, 6, 7] 8 [2, 3, 4, 5, 6, 7, 8] rfl) $$ [F_outShare_1 P192]
  · isplitl [F_outShare_1] <;> iassumption
  ihave F_outShare_1 := (bigSepL_snoc (fun k : Fin 32 => outShareAt m c 1 k) [2, 3, 4, 5, 6, 7, 8] 9 [2, 3, 4, 5, 6, 7, 8, 9] rfl) $$ [F_outShare_1 P193]
  · isplitl [F_outShare_1] <;> iassumption
  ihave F_outShare_1 := (bigSepL_snoc (fun k : Fin 32 => outShareAt m c 1 k) [2, 3, 4, 5, 6, 7, 8, 9] 10 [2, 3, 4, 5, 6, 7, 8, 9, 10] rfl) $$ [F_outShare_1 P194]
  · isplitl [F_outShare_1] <;> iassumption
  ihave F_outShare_1 := (bigSepL_snoc (fun k : Fin 32 => outShareAt m c 1 k) [2, 3, 4, 5, 6, 7, 8, 9, 10] 11 [2, 3, 4, 5, 6, 7, 8, 9, 10, 11] rfl) $$ [F_outShare_1 P195]
  · isplitl [F_outShare_1] <;> iassumption
  ihave F_outShare_1 := (bigSepL_snoc (fun k : Fin 32 => outShareAt m c 1 k) [2, 3, 4, 5, 6, 7, 8, 9, 10, 11] 12 [2, 3, 4, 5, 6, 7, 8, 9, 10, 11, 12] rfl) $$ [F_outShare_1 P196]
  · isplitl [F_outShare_1] <;> iassumption
  ihave F_outShare_1 := (bigSepL_snoc (fun k : Fin 32 => outShareAt m c 1 k) [2, 3, 4, 5, 6, 7, 8, 9, 10, 11, 12] 13 [2, 3, 4, 5, 6, 7, 8, 9, 10, 11, 12, 13] rfl) $$ [F_outShare_1 P197]
  · isplitl [F_outShare_1] <;> iassumption
  ihave F_outShare_1 := (bigSepL_snoc (fun k : Fin 32 => outShareAt m c 1 k) [2, 3, 4, 5, 6, 7, 8, 9, 10, 11, 12, 13] 14 [2, 3, 4, 5, 6, 7, 8, 9, 10, 11, 12, 13, 14] rfl) $$ [F_outShare_1 P198]
  · isplitl [F_outShare_1] <;> iassumption
  ihave F_outShare_1 := (bigSepL_snoc (fun k : Fin 32 => outShareAt m c 1 k) [2, 3, 4, 5, 6, 7, 8, 9, 10, 11, 12, 13, 14] 15 [2, 3, 4, 5, 6, 7, 8, 9, 10, 11, 12, 13, 14, 15] rfl) $$ [F_outShare_1 P199]
  · isplitl [F_outShare_1] <;> iassumption
  ihave F_outShare_1 := (bigSepL_snoc (fun k : Fin 32 => outShareAt m c 1 k) [2, 3, 4, 5, 6, 7, 8, 9, 10, 11, 12, 13, 14, 15] 16 [2, 3, 4, 5, 6, 7, 8, 9, 10, 11, 12, 13, 14, 15, 16] rfl) $$ [F_outShare_1 P200]
  · isplitl [F_outShare_1] <;> iassumption
  ihave F_outShare_1 := (bigSepL_snoc (fun k : Fin 32 => outShareAt m c 1 k) [2, 3, 4, 5, 6, 7, 8, 9, 10, 11, 12, 13, 14, 15, 16] 17 [2, 3, 4, 5, 6, 7, 8, 9, 10, 11, 12, 13, 14, 15, 16, 17] rfl) $$ [F_outShare_1 P201]
  · isplitl [F_outShare_1] <;> iassumption
  ihave F_outShare_1 := (bigSepL_snoc (fun k : Fin 32 => outShareAt m c 1 k) [2, 3, 4, 5, 6, 7, 8, 9, 10, 11, 12, 13, 14, 15, 16, 17] 18 [2, 3, 4, 5, 6, 7, 8, 9, 10, 11, 12, 13, 14, 15, 16, 17, 18] rfl) $$ [F_outShare_1 P202]
  · isplitl [F_outShare_1] <;> iassumption
  ihave F_outShare_1 := (bigSepL_snoc (fun k : Fin 32 => outShareAt m c 1 k) [2, 3, 4, 5, 6, 7, 8, 9, 10, 11, 12, 13, 14, 15, 16, 17, 18] 19 [2, 3, 4, 5, 6, 7, 8, 9, 10, 11, 12, 13, 14, 15, 16, 17, 18, 19] rfl) $$ [F_outShare_1 P203]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19] 20 [2, 3, 4, 5, 6, 7, 8, 9, 10, 11, 12, 13, 14, 15, 16, 17, 18, 19, 20] rfl) $$ [F_outShare_1 P204]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20] 21 [2, 3, 4, 5, 6, 7, 8, 9, 10, 11, 12, 13, 14, 15, 16, 17, 18, 19, 20, 21] rfl) $$ [F_outShare_1 P205]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21] 22 [2, 3, 4, 5, 6, 7, 8, 9, 10, 11, 12, 13, 14, 15, 16, 17, 18, 19, 20, 21, 22] rfl) $$ [F_outShare_1 P206]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22] 23 [2, 3, 4, 5, 6, 7, 8, 9, 10, 11, 12, 13, 14, 15, 16, 17, 18, 19, 20, 21, 22, 23] rfl) $$ [F_outShare_1 P207]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22, 23] 24 [2, 3, 4, 5, 6, 7, 8, 9, 10, 11, 12, 13, 14, 15, 16, 17, 18, 19, 20, 21, 22, 23, 24] rfl) $$ [F_outShare_1 P208]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22, 23, 24] 25 [2, 3, 4, 5, 6, 7, 8, 9, 10, 11, 12, 13, 14, 15, 16, 17, 18, 19, 20, 21, 22, 23, 24, 25] rfl) $$ [F_outShare_1 P209]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22, 23, 24, 25] 26 [2, 3, 4, 5, 6, 7, 8, 9, 10, 11, 12, 13, 14, 15, 16, 17, 18, 19, 20, 21, 22, 23, 24, 25, 26] rfl) $$ [F_outShare_1 P210]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22, 23, 24, 25, 26] 27 [2, 3, 4, 5, 6, 7, 8, 9, 10, 11, 12, 13, 14, 15, 16, 17, 18, 19, 20, 21, 22, 23, 24, 25, 26, 27] rfl) $$ [F_outShare_1 P211]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22, 23, 24, 25, 26, 27] 28 [2, 3, 4, 5, 6, 7, 8, 9, 10, 11, 12, 13, 14, 15, 16, 17, 18, 19, 20, 21, 22, 23, 24, 25, 26, 27, 28] rfl) $$ [F_outShare_1 P212]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22, 23, 24, 25, 26, 27, 28] 29 [2, 3, 4, 5, 6, 7, 8, 9, 10, 11, 12, 13, 14, 15, 16, 17, 18, 19, 20, 21, 22, 23, 24, 25, 26, 27, 28, 29] rfl) $$ [F_outShare_1 P213]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22, 23, 24, 25, 26, 27, 28, 29] 30 [2, 3, 4, 5, 6, 7, 8, 9, 10, 11, 12, 13, 14, 15, 16, 17, 18, 19, 20, 21, 22, 23, 24, 25, 26, 27, 28, 29, 30] rfl) $$ [F_outShare_1 P214]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22, 23, 24, 25, 26, 27, 28, 29, 30] 31 [2, 3, 4, 5, 6, 7, 8, 9, 10, 11, 12, 13, 14, 15, 16, 17, 18, 19, 20, 21, 22, 23, 24, 25, 26, 27, 28, 29, 30, 31] rfl) $$ [F_outShare_1 P215]
  · isplitl [F_outShare_1] <;> iassumption
  ihave F_recvRes_agS_1 := (bigSepL_wrap (fun k : Fin 32 => recvRes m K agS c 1 k) 1) $$ P216
  -- k0_part80
  icases (bigSepL_pop (fun k : Fin 32 => copyRes m K agS agR c 1 k) 2 3 [4, 5, 6, 7, 8, 9, 10, 11, 12, 13, 14, 15, 16, 17, 18, 19, 20, 21, 22, 23, 24, 25, 26, 27, 28, 29, 30, 31]) $$ F_copyRes_agS_1 with ⟨T217, F_copyRes_agS_1⟩
  icases (bigSepL_pop (fun k : Fin 32 => outShareAt m c 1 k) 2 3 [4, 5, 6, 7, 8, 9, 10, 11, 12, 13, 14, 15, 16, 17, 18, 19, 20, 21, 22, 23, 24, 25, 26, 27, 28, 29, 30, 31]) $$ F_outShare_1 with ⟨T218, F_outShare_1⟩
  icases (bigSepL_pop (fun k : Fin 32 => peerOutAt c 1 k) 2 3 [4, 5, 6, 7, 8, 9, 10, 11, 12, 13, 14, 15, 16, 17, 18, 19, 20, 21, 22, 23, 24, 25, 26, 27, 28, 29, 30, 31]) $$ F_peerOut_1 with ⟨T219, F_peerOut_1⟩
  icases (bigSepL_pop (fun k : Fin 32 => copyRes m K agS agR c 1 k) 3 4 [5, 6, 7, 8, 9, 10, 11, 12, 13, 14, 15, 16, 17, 18, 19, 20, 21, 22, 23, 24, 25, 26, 27, 28, 29, 30, 31]) $$ F_copyRes_agS_1 with ⟨T220, F_copyRes_agS_1⟩
  icases (bigSepL_pop (fun k : Fin 32 => outShareAt m c 1 k) 3 4 [5, 6, 7, 8, 9, 10, 11, 12, 13, 14, 15, 16, 17, 18, 19, 20, 21, 22, 23, 24, 25, 26, 27, 28, 29, 30, 31]) $$ F_outShare_1 with ⟨T221, F_outShare_1⟩
  icases (bigSepL_pop (fun k : Fin 32 => peerOutAt c 1 k) 3 4 [5, 6, 7, 8, 9, 10, 11, 12, 13, 14, 15, 16, 17, 18, 19, 20, 21, 22, 23, 24, 25, 26, 27, 28, 29, 30, 31]) $$ F_peerOut_1 with ⟨T222, F_peerOut_1⟩
  icases (bigSepL_pop (fun k : Fin 32 => copyRes m K agS agR c 1 k) 4 5 [6, 7, 8, 9, 10, 11, 12, 13, 14, 15, 16, 17, 18, 19, 20, 21, 22, 23, 24, 25, 26, 27, 28, 29, 30, 31]) $$ F_copyRes_agS_1 with ⟨T223, F_copyRes_agS_1⟩
  icases (bigSepL_pop (fun k : Fin 32 => outShareAt m c 1 k) 4 5 [6, 7, 8, 9, 10, 11, 12, 13, 14, 15, 16, 17, 18, 19, 20, 21, 22, 23, 24, 25, 26, 27, 28, 29, 30, 31]) $$ F_outShare_1 with ⟨T224, F_outShare_1⟩
  icases (bigSepL_pop (fun k : Fin 32 => peerOutAt c 1 k) 4 5 [6, 7, 8, 9, 10, 11, 12, 13, 14, 15, 16, 17, 18, 19, 20, 21, 22, 23, 24, 25, 26, 27, 28, 29, 30, 31]) $$ F_peerOut_1 with ⟨T225, F_peerOut_1⟩
  rw [owed_step_125 c, owed_step_126 c, owed_step_127 c]
  rw [wp_bind]
  iapply (part80_spec' m K c _ (owedAfter c 128) ((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))
  isplitl [T217]
  · iexact T217
  isplitl [T218]
  · iexact T218
  isplitl [T219]
  · iexact T219
  isplitl [T220]
  · iexact T220
  isplitl [T221]
  · iexact T221
  isplitl [T222]
  · iexact T222
  isplitl [T223]
  · iexact T223
  isplitl [T224]
  · iexact T224
  isplitl [T225]
  · iexact T225
  isplitl [H_owes]
  · iexact H_owes
  iintro %r ⟨P226, P227, P228, H_owes⟩
  obtain ⟨v2051, c32_i32_2509⟩ := r
  try dsimp only
  ihave F_recvRes_agS_1 := (bigSepL_snoc (fun k : Fin 32 => recvRes m K agS c 1 k) [1] 2 [1, 2] rfl) $$ [F_recvRes_agS_1 P226]
  · isplitl [F_recvRes_agS_1] <;> iassumption
  ihave F_recvRes_agS_1 := (bigSepL_snoc (fun k : Fin 32 => recvRes m K agS c 1 k) [1, 2] 3 [1, 2, 3] rfl) $$ [F_recvRes_agS_1 P227]
  · isplitl [F_recvRes_agS_1] <;> iassumption
  ihave F_recvRes_agS_1 := (bigSepL_snoc (fun k : Fin 32 => recvRes m K agS c 1 k) [1, 2, 3] 4 [1, 2, 3, 4] rfl) $$ [F_recvRes_agS_1 P228]
  · isplitl [F_recvRes_agS_1] <;> iassumption
  -- k0_part81
  icases (bigSepL_pop (fun k : Fin 32 => copyRes m K agS agR c 1 k) 5 6 [7, 8, 9, 10, 11, 12, 13, 14, 15, 16, 17, 18, 19, 20, 21, 22, 23, 24, 25, 26, 27, 28, 29, 30, 31]) $$ F_copyRes_agS_1 with ⟨T229, F_copyRes_agS_1⟩
  icases (bigSepL_pop (fun k : Fin 32 => outShareAt m c 1 k) 5 6 [7, 8, 9, 10, 11, 12, 13, 14, 15, 16, 17, 18, 19, 20, 21, 22, 23, 24, 25, 26, 27, 28, 29, 30, 31]) $$ F_outShare_1 with ⟨T230, F_outShare_1⟩
  icases (bigSepL_pop (fun k : Fin 32 => peerOutAt c 1 k) 5 6 [7, 8, 9, 10, 11, 12, 13, 14, 15, 16, 17, 18, 19, 20, 21, 22, 23, 24, 25, 26, 27, 28, 29, 30, 31]) $$ F_peerOut_1 with ⟨T231, F_peerOut_1⟩
  icases (bigSepL_pop (fun k : Fin 32 => copyRes m K agS agR c 1 k) 6 7 [8, 9, 10, 11, 12, 13, 14, 15, 16, 17, 18, 19, 20, 21, 22, 23, 24, 25, 26, 27, 28, 29, 30, 31]) $$ F_copyRes_agS_1 with ⟨T232, F_copyRes_agS_1⟩
  icases (bigSepL_pop (fun k : Fin 32 => outShareAt m c 1 k) 6 7 [8, 9, 10, 11, 12, 13, 14, 15, 16, 17, 18, 19, 20, 21, 22, 23, 24, 25, 26, 27, 28, 29, 30, 31]) $$ F_outShare_1 with ⟨T233, F_outShare_1⟩
  icases (bigSepL_pop (fun k : Fin 32 => peerOutAt c 1 k) 6 7 [8, 9, 10, 11, 12, 13, 14, 15, 16, 17, 18, 19, 20, 21, 22, 23, 24, 25, 26, 27, 28, 29, 30, 31]) $$ F_peerOut_1 with ⟨T234, F_peerOut_1⟩
  rw [owed_step_128 c, owed_step_129 c]
  rw [wp_bind]
  iapply (part81_spec' m K c _ _ _ (owedAfter c 130) (((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))
  isplitl [T229]
  · iexact T229
  isplitl [T230]
  · iexact T230
  isplitl [T231]
  · iexact T231
  isplitl [T232]
  · iexact T232
  isplitl [T233]
  · iexact T233
  isplitl [T234]
  · iexact T234
  isplitl [H_owes]
  · iexact H_owes
  iintro %r ⟨P235, P236, H_owes⟩
  try dsimp only
  ihave F_recvRes_agS_1 := (bigSepL_snoc (fun k : Fin 32 => recvRes m K agS c 1 k) [1, 2, 3, 4] 5 [1, 2, 3, 4, 5] rfl) $$ [F_recvRes_agS_1 P235]
  · isplitl [F_recvRes_agS_1] <;> iassumption
  ihave F_recvRes_agS_1 := (bigSepL_snoc (fun k : Fin 32 => recvRes m K agS c 1 k) [1, 2, 3, 4, 5] 6 [1, 2, 3, 4, 5, 6] rfl) $$ [F_recvRes_agS_1 P236]
  · isplitl [F_recvRes_agS_1] <;> iassumption
  -- k0_part82
  icases (bigSepL_pop (fun k : Fin 32 => copyRes m K agS agR c 1 k) 7 8 [9, 10, 11, 12, 13, 14, 15, 16, 17, 18, 19, 20, 21, 22, 23, 24, 25, 26, 27, 28, 29, 30, 31]) $$ F_copyRes_agS_1 with ⟨T237, F_copyRes_agS_1⟩
  icases (bigSepL_pop (fun k : Fin 32 => outShareAt m c 1 k) 7 8 [9, 10, 11, 12, 13, 14, 15, 16, 17, 18, 19, 20, 21, 22, 23, 24, 25, 26, 27, 28, 29, 30, 31]) $$ F_outShare_1 with ⟨T238, F_outShare_1⟩
  icases (bigSepL_pop (fun k : Fin 32 => peerOutAt c 1 k) 7 8 [9, 10, 11, 12, 13, 14, 15, 16, 17, 18, 19, 20, 21, 22, 23, 24, 25, 26, 27, 28, 29, 30, 31]) $$ F_peerOut_1 with ⟨T239, F_peerOut_1⟩
  icases (bigSepL_pop (fun k : Fin 32 => copyRes m K agS agR c 1 k) 8 9 [10, 11, 12, 13, 14, 15, 16, 17, 18, 19, 20, 21, 22, 23, 24, 25, 26, 27, 28, 29, 30, 31]) $$ F_copyRes_agS_1 with ⟨T240, F_copyRes_agS_1⟩
  icases (bigSepL_pop (fun k : Fin 32 => outShareAt m c 1 k) 8 9 [10, 11, 12, 13, 14, 15, 16, 17, 18, 19, 20, 21, 22, 23, 24, 25, 26, 27, 28, 29, 30, 31]) $$ F_outShare_1 with ⟨T241, F_outShare_1⟩
  icases (bigSepL_pop (fun k : Fin 32 => peerOutAt c 1 k) 8 9 [10, 11, 12, 13, 14, 15, 16, 17, 18, 19, 20, 21, 22, 23, 24, 25, 26, 27, 28, 29, 30, 31]) $$ F_peerOut_1 with ⟨T242, F_peerOut_1⟩
  icases (bigSepL_pop (fun k : Fin 32 => copyRes m K agS agR c 1 k) 9 10 [11, 12, 13, 14, 15, 16, 17, 18, 19, 20, 21, 22, 23, 24, 25, 26, 27, 28, 29, 30, 31]) $$ F_copyRes_agS_1 with ⟨T243, F_copyRes_agS_1⟩
  icases (bigSepL_pop (fun k : Fin 32 => outShareAt m c 1 k) 9 10 [11, 12, 13, 14, 15, 16, 17, 18, 19, 20, 21, 22, 23, 24, 25, 26, 27, 28, 29, 30, 31]) $$ F_outShare_1 with ⟨T244, F_outShare_1⟩
  icases (bigSepL_pop (fun k : Fin 32 => peerOutAt c 1 k) 9 10 [11, 12, 13, 14, 15, 16, 17, 18, 19, 20, 21, 22, 23, 24, 25, 26, 27, 28, 29, 30, 31]) $$ F_peerOut_1 with ⟨T245, F_peerOut_1⟩
  rw [owed_step_130 c, owed_step_131 c, owed_step_132 c]
  rw [wp_bind]
  iapply (part82_spec' m K c _ (owedAfter c 133) ((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))
  isplitl [T237]
  · iexact T237
  isplitl [T238]
  · iexact T238
  isplitl [T239]
  · iexact T239
  isplitl [T240]
  · iexact T240
  isplitl [T241]
  · iexact T241
  isplitl [T242]
  · iexact T242
  isplitl [T243]
  · iexact T243
  isplitl [T244]
  · iexact T244
  isplitl [T245]
  · iexact T245
  isplitl [H_owes]
  · iexact H_owes
  iintro %v2110 ⟨P246, P247, P248, H_owes⟩
  try dsimp only
  ihave F_recvRes_agS_1 := (bigSepL_snoc (fun k : Fin 32 => recvRes m K agS c 1 k) [1, 2, 3, 4, 5, 6] 7 [1, 2, 3, 4, 5, 6, 7] rfl) $$ [F_recvRes_agS_1 P246]
  · isplitl [F_recvRes_agS_1] <;> iassumption
  ihave F_recvRes_agS_1 := (bigSepL_snoc (fun k : Fin 32 => recvRes m K agS c 1 k) [1, 2, 3, 4, 5, 6, 7] 8 [1, 2, 3, 4, 5, 6, 7, 8] rfl) $$ [F_recvRes_agS_1 P247]
  · isplitl [F_recvRes_agS_1] <;> iassumption
  ihave F_recvRes_agS_1 := (bigSepL_snoc (fun k : Fin 32 => recvRes m K agS c 1 k) [1, 2, 3, 4, 5, 6, 7, 8] 9 [1, 2, 3, 4, 5, 6, 7, 8, 9] rfl) $$ [F_recvRes_agS_1 P248]
  · isplitl [F_recvRes_agS_1] <;> iassumption
  -- k0_part83
  icases (bigSepL_pop (fun k : Fin 32 => copyRes m K agS agR c 1 k) 10 11 [12, 13, 14, 15, 16, 17, 18, 19, 20, 21, 22, 23, 24, 25, 26, 27, 28, 29, 30, 31]) $$ F_copyRes_agS_1 with ⟨T249, F_copyRes_agS_1⟩
  icases (bigSepL_pop (fun k : Fin 32 => outShareAt m c 1 k) 10 11 [12, 13, 14, 15, 16, 17, 18, 19, 20, 21, 22, 23, 24, 25, 26, 27, 28, 29, 30, 31]) $$ F_outShare_1 with ⟨T250, F_outShare_1⟩
  icases (bigSepL_pop (fun k : Fin 32 => peerOutAt c 1 k) 10 11 [12, 13, 14, 15, 16, 17, 18, 19, 20, 21, 22, 23, 24, 25, 26, 27, 28, 29, 30, 31]) $$ F_peerOut_1 with ⟨T251, F_peerOut_1⟩
  icases (bigSepL_pop (fun k : Fin 32 => copyRes m K agS agR c 1 k) 11 12 [13, 14, 15, 16, 17, 18, 19, 20, 21, 22, 23, 24, 25, 26, 27, 28, 29, 30, 31]) $$ F_copyRes_agS_1 with ⟨T252, F_copyRes_agS_1⟩
  icases (bigSepL_pop (fun k : Fin 32 => outShareAt m c 1 k) 11 12 [13, 14, 15, 16, 17, 18, 19, 20, 21, 22, 23, 24, 25, 26, 27, 28, 29, 30, 31]) $$ F_outShare_1 with ⟨T253, F_outShare_1⟩
  icases (bigSepL_pop (fun k : Fin 32 => peerOutAt c 1 k) 11 12 [13, 14, 15, 16, 17, 18, 19, 20, 21, 22, 23, 24, 25, 26, 27, 28, 29, 30, 31]) $$ F_peerOut_1 with ⟨T254, F_peerOut_1⟩
  rw [owed_step_133 c, owed_step_134 c]
  rw [wp_bind]
  iapply (part83_spec' m K c _ _ (owedAfter c 135) (((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))
  isplitl [T249]
  · iexact T249
  isplitl [T250]
  · iexact T250
  isplitl [T251]
  · iexact T251
  isplitl [T252]
  · iexact T252
  isplitl [T253]
  · iexact T253
  isplitl [T254]
  · iexact T254
  isplitl [H_owes]
  · iexact H_owes
  iintro %v2135 ⟨P255, P256, H_owes⟩
  try dsimp only
  ihave F_recvRes_agS_1 := (bigSepL_snoc (fun k : Fin 32 => recvRes m K agS c 1 k) [1, 2, 3, 4, 5, 6, 7, 8, 9] 10 [1, 2, 3, 4, 5, 6, 7, 8, 9, 10] rfl) $$ [F_recvRes_agS_1 P255]
  · isplitl [F_recvRes_agS_1] <;> iassumption
  ihave F_recvRes_agS_1 := (bigSepL_snoc (fun k : Fin 32 => recvRes m K agS c 1 k) [1, 2, 3, 4, 5, 6, 7, 8, 9, 10] 11 [1, 2, 3, 4, 5, 6, 7, 8, 9, 10, 11] rfl) $$ [F_recvRes_agS_1 P256]
  · isplitl [F_recvRes_agS_1] <;> iassumption
  -- k0_part84
  icases (bigSepL_pop (fun k : Fin 32 => copyRes m K agS agR c 1 k) 12 13 [14, 15, 16, 17, 18, 19, 20, 21, 22, 23, 24, 25, 26, 27, 28, 29, 30, 31]) $$ F_copyRes_agS_1 with ⟨T257, F_copyRes_agS_1⟩
  icases (bigSepL_pop (fun k : Fin 32 => outShareAt m c 1 k) 12 13 [14, 15, 16, 17, 18, 19, 20, 21, 22, 23, 24, 25, 26, 27, 28, 29, 30, 31]) $$ F_outShare_1 with ⟨T258, F_outShare_1⟩
  icases (bigSepL_pop (fun k : Fin 32 => peerOutAt c 1 k) 12 13 [14, 15, 16, 17, 18, 19, 20, 21, 22, 23, 24, 25, 26, 27, 28, 29, 30, 31]) $$ F_peerOut_1 with ⟨T259, F_peerOut_1⟩
  icases (bigSepL_pop (fun k : Fin 32 => copyRes m K agS agR c 1 k) 13 14 [15, 16, 17, 18, 19, 20, 21, 22, 23, 24, 25, 26, 27, 28, 29, 30, 31]) $$ F_copyRes_agS_1 with ⟨T260, F_copyRes_agS_1⟩
  icases (bigSepL_pop (fun k : Fin 32 => outShareAt m c 1 k) 13 14 [15, 16, 17, 18, 19, 20, 21, 22, 23, 24, 25, 26, 27, 28, 29, 30, 31]) $$ F_outShare_1 with ⟨T261, F_outShare_1⟩
  icases (bigSepL_pop (fun k : Fin 32 => peerOutAt c 1 k) 13 14 [15, 16, 17, 18, 19, 20, 21, 22, 23, 24, 25, 26, 27, 28, 29, 30, 31]) $$ F_peerOut_1 with ⟨T262, F_peerOut_1⟩
  rw [owed_step_135 c, owed_step_136 c]
  rw [wp_bind]
  iapply (part84_spec' m K c _ _ (owedAfter c 137) ((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))
  isplitl [T257]
  · iexact T257
  isplitl [T258]
  · iexact T258
  isplitl [T259]
  · iexact T259
  isplitl [T260]
  · iexact T260
  isplitl [T261]
  · iexact T261
  isplitl [T262]
  · iexact T262
  isplitl [H_owes]
  · iexact H_owes
  iintro %r ⟨P263, P264, H_owes⟩
  try dsimp only
  ihave F_recvRes_agS_1 := (bigSepL_snoc (fun k : Fin 32 => recvRes m K agS c 1 k) [1, 2, 3, 4, 5, 6, 7, 8, 9, 10, 11] 12 [1, 2, 3, 4, 5, 6, 7, 8, 9, 10, 11, 12] rfl) $$ [F_recvRes_agS_1 P263]
  · isplitl [F_recvRes_agS_1] <;> iassumption
  ihave F_recvRes_agS_1 := (bigSepL_snoc (fun k : Fin 32 => recvRes m K agS c 1 k) [1, 2, 3, 4, 5, 6, 7, 8, 9, 10, 11, 12] 13 [1, 2, 3, 4, 5, 6, 7, 8, 9, 10, 11, 12, 13] rfl) $$ [F_recvRes_agS_1 P264]
  · isplitl [F_recvRes_agS_1] <;> iassumption
  -- k0_part85
  icases (bigSepL_pop (fun k : Fin 32 => copyRes m K agS agR c 1 k) 14 15 [16, 17, 18, 19, 20, 21, 22, 23, 24, 25, 26, 27, 28, 29, 30, 31]) $$ F_copyRes_agS_1 with ⟨T265, F_copyRes_agS_1⟩
  icases (bigSepL_pop (fun k : Fin 32 => outShareAt m c 1 k) 14 15 [16, 17, 18, 19, 20, 21, 22, 23, 24, 25, 26, 27, 28, 29, 30, 31]) $$ F_outShare_1 with ⟨T266, F_outShare_1⟩
  icases (bigSepL_pop (fun k : Fin 32 => peerOutAt c 1 k) 14 15 [16, 17, 18, 19, 20, 21, 22, 23, 24, 25, 26, 27, 28, 29, 30, 31]) $$ F_peerOut_1 with ⟨T267, F_peerOut_1⟩
  icases (bigSepL_pop (fun k : Fin 32 => copyRes m K agS agR c 1 k) 15 16 [17, 18, 19, 20, 21, 22, 23, 24, 25, 26, 27, 28, 29, 30, 31]) $$ F_copyRes_agS_1 with ⟨T268, F_copyRes_agS_1⟩
  icases (bigSepL_pop (fun k : Fin 32 => outShareAt m c 1 k) 15 16 [17, 18, 19, 20, 21, 22, 23, 24, 25, 26, 27, 28, 29, 30, 31]) $$ F_outShare_1 with ⟨T269, F_outShare_1⟩
  icases (bigSepL_pop (fun k : Fin 32 => peerOutAt c 1 k) 15 16 [17, 18, 19, 20, 21, 22, 23, 24, 25, 26, 27, 28, 29, 30, 31]) $$ F_peerOut_1 with ⟨T270, F_peerOut_1⟩
  icases (bigSepL_pop (fun k : Fin 32 => copyRes m K agS agR c 1 k) 16 17 [18, 19, 20, 21, 22, 23, 24, 25, 26, 27, 28, 29, 30, 31]) $$ F_copyRes_agS_1 with ⟨T271, F_copyRes_agS_1⟩
  icases (bigSepL_pop (fun k : Fin 32 => outShareAt m c 1 k) 16 17 [18, 19, 20, 21, 22, 23, 24, 25, 26, 27, 28, 29, 30, 31]) $$ F_outShare_1 with ⟨T272, F_outShare_1⟩
  icases (bigSepL_pop (fun k : Fin 32 => peerOutAt c 1 k) 16 17 [18, 19, 20, 21, 22, 23, 24, 25, 26, 27, 28, 29, 30, 31]) $$ F_peerOut_1 with ⟨T273, F_peerOut_1⟩
  rw [owed_step_137 c, owed_step_138 c, owed_step_139 c]
  rw [wp_bind]
  iapply (part85_spec' m K c _ (owedAfter c 140) (((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))
  isplitl [T265]
  · iexact T265
  isplitl [T266]
  · iexact T266
  isplitl [T267]
  · iexact T267
  isplitl [T268]
  · iexact T268
  isplitl [T269]
  · iexact T269
  isplitl [T270]
  · iexact T270
  isplitl [T271]
  · iexact T271
  isplitl [T272]
  · iexact T272
  isplitl [T273]
  · iexact T273
  isplitl [H_owes]
  · iexact H_owes
  iintro %r ⟨P274, P275, P276, H_owes⟩
  obtain ⟨v2195, c32_i32_2653⟩ := r
  try dsimp only
  ihave F_recvRes_agS_1 := (bigSepL_snoc (fun k : Fin 32 => recvRes m K agS c 1 k) [1, 2, 3, 4, 5, 6, 7, 8, 9, 10, 11, 12, 13] 14 [1, 2, 3, 4, 5, 6, 7, 8, 9, 10, 11, 12, 13, 14] rfl) $$ [F_recvRes_agS_1 P274]
  · isplitl [F_recvRes_agS_1] <;> iassumption
  ihave F_recvRes_agS_1 := (bigSepL_snoc (fun k : Fin 32 => recvRes m K agS c 1 k) [1, 2, 3, 4, 5, 6, 7, 8, 9, 10, 11, 12, 13, 14] 15 [1, 2, 3, 4, 5, 6, 7, 8, 9, 10, 11, 12, 13, 14, 15] rfl) $$ [F_recvRes_agS_1 P275]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15] 16 [1, 2, 3, 4, 5, 6, 7, 8, 9, 10, 11, 12, 13, 14, 15, 16] rfl) $$ [F_recvRes_agS_1 P276]
  · isplitl [F_recvRes_agS_1] <;> iassumption
  -- k0_part86
  icases (bigSepL_pop (fun k : Fin 32 => copyRes m K agS agR c 1 k) 17 18 [19, 20, 21, 22, 23, 24, 25, 26, 27, 28, 29, 30, 31]) $$ F_copyRes_agS_1 with ⟨T277, F_copyRes_agS_1⟩
  icases (bigSepL_pop (fun k : Fin 32 => outShareAt m c 1 k) 17 18 [19, 20, 21, 22, 23, 24, 25, 26, 27, 28, 29, 30, 31]) $$ F_outShare_1 with ⟨T278, F_outShare_1⟩
  icases (bigSepL_pop (fun k : Fin 32 => peerOutAt c 1 k) 17 18 [19, 20, 21, 22, 23, 24, 25, 26, 27, 28, 29, 30, 31]) $$ F_peerOut_1 with ⟨T279, F_peerOut_1⟩
  icases (bigSepL_pop (fun k : Fin 32 => copyRes m K agS agR c 1 k) 18 19 [20, 21, 22, 23, 24, 25, 26, 27, 28, 29, 30, 31]) $$ F_copyRes_agS_1 with ⟨T280, F_copyRes_agS_1⟩
  icases (bigSepL_pop (fun k : Fin 32 => outShareAt m c 1 k) 18 19 [20, 21, 22, 23, 24, 25, 26, 27, 28, 29, 30, 31]) $$ F_outShare_1 with ⟨T281, F_outShare_1⟩
  icases (bigSepL_pop (fun k : Fin 32 => peerOutAt c 1 k) 18 19 [20, 21, 22, 23, 24, 25, 26, 27, 28, 29, 30, 31]) $$ F_peerOut_1 with ⟨T282, F_peerOut_1⟩
  rw [owed_step_140 c, owed_step_141 c]
  rw [wp_bind]
  iapply (part86_spec' m K c _ _ _ (owedAfter c 142) ((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))
  isplitl [T277]
  · iexact T277
  isplitl [T278]
  · iexact T278
  isplitl [T279]
  · iexact T279
  isplitl [T280]
  · iexact T280
  isplitl [T281]
  · iexact T281
  isplitl [T282]
  · iexact T282
  isplitl [H_owes]
  · iexact H_owes
  iintro %r ⟨P283, P284, H_owes⟩
  try dsimp only
  ihave F_recvRes_agS_1 := (bigSepL_snoc (fun k : Fin 32 => recvRes m K agS c 1 k) [1, 2, 3, 4, 5, 6, 7, 8, 9, 10, 11, 12, 13, 14, 15, 16] 17 [1, 2, 3, 4, 5, 6, 7, 8, 9, 10, 11, 12, 13, 14, 15, 16, 17] rfl) $$ [F_recvRes_agS_1 P283]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15, 16, 17] 18 [1, 2, 3, 4, 5, 6, 7, 8, 9, 10, 11, 12, 13, 14, 15, 16, 17, 18] rfl) $$ [F_recvRes_agS_1 P284]
  · isplitl [F_recvRes_agS_1] <;> iassumption
  -- k0_part87
  icases (bigSepL_pop (fun k : Fin 32 => copyRes m K agS agR c 1 k) 19 20 [21, 22, 23, 24, 25, 26, 27, 28, 29, 30, 31]) $$ F_copyRes_agS_1 with ⟨T285, F_copyRes_agS_1⟩
  icases (bigSepL_pop (fun k : Fin 32 => outShareAt m c 1 k) 19 20 [21, 22, 23, 24, 25, 26, 27, 28, 29, 30, 31]) $$ F_outShare_1 with ⟨T286, F_outShare_1⟩
  icases (bigSepL_pop (fun k : Fin 32 => peerOutAt c 1 k) 19 20 [21, 22, 23, 24, 25, 26, 27, 28, 29, 30, 31]) $$ F_peerOut_1 with ⟨T287, F_peerOut_1⟩
  icases (bigSepL_pop (fun k : Fin 32 => copyRes m K agS agR c 1 k) 20 21 [22, 23, 24, 25, 26, 27, 28, 29, 30, 31]) $$ F_copyRes_agS_1 with ⟨T288, F_copyRes_agS_1⟩
  icases (bigSepL_pop (fun k : Fin 32 => outShareAt m c 1 k) 20 21 [22, 23, 24, 25, 26, 27, 28, 29, 30, 31]) $$ F_outShare_1 with ⟨T289, F_outShare_1⟩
  icases (bigSepL_pop (fun k : Fin 32 => peerOutAt c 1 k) 20 21 [22, 23, 24, 25, 26, 27, 28, 29, 30, 31]) $$ F_peerOut_1 with ⟨T290, F_peerOut_1⟩
  icases (bigSepL_pop (fun k : Fin 32 => copyRes m K agS agR c 1 k) 21 22 [23, 24, 25, 26, 27, 28, 29, 30, 31]) $$ F_copyRes_agS_1 with ⟨T291, F_copyRes_agS_1⟩
  icases (bigSepL_pop (fun k : Fin 32 => outShareAt m c 1 k) 21 22 [23, 24, 25, 26, 27, 28, 29, 30, 31]) $$ F_outShare_1 with ⟨T292, F_outShare_1⟩
  icases (bigSepL_pop (fun k : Fin 32 => peerOutAt c 1 k) 21 22 [23, 24, 25, 26, 27, 28, 29, 30, 31]) $$ F_peerOut_1 with ⟨T293, F_peerOut_1⟩
  rw [owed_step_142 c, owed_step_143 c, owed_step_144 c]
  rw [wp_bind]
  iapply (part87_spec' m K c _ (owedAfter c 145) (((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))
  isplitl [T285]
  · iexact T285
  isplitl [T286]
  · iexact T286
  isplitl [T287]
  · iexact T287
  isplitl [T288]
  · iexact T288
  isplitl [T289]
  · iexact T289
  isplitl [T290]
  · iexact T290
  isplitl [T291]
  · iexact T291
  isplitl [T292]
  · iexact T292
  isplitl [T293]
  · iexact T293
  isplitl [H_owes]
  · iexact H_owes
  iintro %v2254 ⟨P294, P295, P296, H_owes⟩
  try dsimp only
  ihave F_recvRes_agS_1 := (bigSepL_snoc (fun k : Fin 32 => recvRes m K agS c 1 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_recvRes_agS_1 P294]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_recvRes_agS_1 P295]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_recvRes_agS_1 P296]
  · isplitl [F_recvRes_agS_1] <;> iassumption
  -- k0_part88
  icases (bigSepL_pop (fun k : Fin 32 => copyRes m K agS agR c 1 k) 22 23 [24, 25, 26, 27, 28, 29, 30, 31]) $$ F_copyRes_agS_1 with ⟨T297, F_copyRes_agS_1⟩
  icases (bigSepL_pop (fun k : Fin 32 => outShareAt m c 1 k) 22 23 [24, 25, 26, 27, 28, 29, 30, 31]) $$ F_outShare_1 with ⟨T298, F_outShare_1⟩
  icases (bigSepL_pop (fun k : Fin 32 => peerOutAt c 1 k) 22 23 [24, 25, 26, 27, 28, 29, 30, 31]) $$ F_peerOut_1 with ⟨T299, F_peerOut_1⟩
  icases (bigSepL_pop (fun k : Fin 32 => copyRes m K agS agR c 1 k) 23 24 [25, 26, 27, 28, 29, 30, 31]) $$ F_copyRes_agS_1 with ⟨T300, F_copyRes_agS_1⟩
  icases (bigSepL_pop (fun k : Fin 32 => outShareAt m c 1 k) 23 24 [25, 26, 27, 28, 29, 30, 31]) $$ F_outShare_1 with ⟨T301, F_outShare_1⟩
  icases (bigSepL_pop (fun k : Fin 32 => peerOutAt c 1 k) 23 24 [25, 26, 27, 28, 29, 30, 31]) $$ F_peerOut_1 with ⟨T302, F_peerOut_1⟩
  rw [owed_step_145 c, owed_step_146 c]
  rw [wp_bind]
  iapply (part88_spec' m K c _ _ (owedAfter c 147) ((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))
  isplitl [T297]
  · iexact T297
  isplitl [T298]
  · iexact T298
  isplitl [T299]
  · iexact T299
  isplitl [T300]
  · iexact T300
  isplitl [T301]
  · iexact T301
  isplitl [T302]
  · iexact T302
  isplitl [H_owes]
  · iexact H_owes
  iintro %v2279 ⟨P303, P304, H_owes⟩
  try dsimp only
  ihave F_recvRes_agS_1 := (bigSepL_snoc (fun k : Fin 32 => recvRes m K agS c 1 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_recvRes_agS_1 P303]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_recvRes_agS_1 P304]
  · isplitl [F_recvRes_agS_1] <;> iassumption
  -- k0_part89
  icases (bigSepL_pop (fun k : Fin 32 => copyRes m K agS agR c 1 k) 24 25 [26, 27, 28, 29, 30, 31]) $$ F_copyRes_agS_1 with ⟨T305, F_copyRes_agS_1⟩
  icases (bigSepL_pop (fun k : Fin 32 => outShareAt m c 1 k) 24 25 [26, 27, 28, 29, 30, 31]) $$ F_outShare_1 with ⟨T306, F_outShare_1⟩
  icases (bigSepL_pop (fun k : Fin 32 => peerOutAt c 1 k) 24 25 [26, 27, 28, 29, 30, 31]) $$ F_peerOut_1 with ⟨T307, F_peerOut_1⟩
  icases (bigSepL_pop (fun k : Fin 32 => copyRes m K agS agR c 1 k) 25 26 [27, 28, 29, 30, 31]) $$ F_copyRes_agS_1 with ⟨T308, F_copyRes_agS_1⟩
  icases (bigSepL_pop (fun k : Fin 32 => outShareAt m c 1 k) 25 26 [27, 28, 29, 30, 31]) $$ F_outShare_1 with ⟨T309, F_outShare_1⟩
  icases (bigSepL_pop (fun k : Fin 32 => peerOutAt c 1 k) 25 26 [27, 28, 29, 30, 31]) $$ F_peerOut_1 with ⟨T310, F_peerOut_1⟩
  rw [owed_step_147 c, owed_step_148 c]
  rw [wp_bind]
  iapply (part89_spec' m K c _ _ (owedAfter c 149) (((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))
  isplitl [T305]
  · iexact T305
  isplitl [T306]
  · iexact T306
  isplitl [T307]
  · iexact T307
  isplitl [T308]
  · iexact T308
  isplitl [T309]
  · iexact T309
  isplitl [T310]
  · iexact T310
  isplitl [H_owes]
  · iexact H_owes
  iintro %r ⟨P311, P312, H_owes⟩
  try dsimp only
  ihave F_recvRes_agS_1 := (bigSepL_snoc (fun k : Fin 32 => recvRes m K agS c 1 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_recvRes_agS_1 P311]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_recvRes_agS_1 P312]
  · isplitl [F_recvRes_agS_1] <;> iassumption
  -- k0_part90
  icases (bigSepL_pop (fun k : Fin 32 => copyRes m K agS agR c 1 k) 26 27 [28, 29, 30, 31]) $$ F_copyRes_agS_1 with ⟨T313, F_copyRes_agS_1⟩
  icases (bigSepL_pop (fun k : Fin 32 => outShareAt m c 1 k) 26 27 [28, 29, 30, 31]) $$ F_outShare_1 with ⟨T314, F_outShare_1⟩
  icases (bigSepL_pop (fun k : Fin 32 => peerOutAt c 1 k) 26 27 [28, 29, 30, 31]) $$ F_peerOut_1 with ⟨T315, F_peerOut_1⟩
  icases (bigSepL_pop (fun k : Fin 32 => copyRes m K agS agR c 1 k) 27 28 [29, 30, 31]) $$ F_copyRes_agS_1 with ⟨T316, F_copyRes_agS_1⟩
  icases (bigSepL_pop (fun k : Fin 32 => outShareAt m c 1 k) 27 28 [29, 30, 31]) $$ F_outShare_1 with ⟨T317, F_outShare_1⟩
  icases (bigSepL_pop (fun k : Fin 32 => peerOutAt c 1 k) 27 28 [29, 30, 31]) $$ F_peerOut_1 with ⟨T318, F_peerOut_1⟩
  icases (bigSepL_pop (fun k : Fin 32 => copyRes m K agS agR c 1 k) 28 29 [30, 31]) $$ F_copyRes_agS_1 with ⟨T319, F_copyRes_agS_1⟩
  icases (bigSepL_pop (fun k : Fin 32 => outShareAt m c 1 k) 28 29 [30, 31]) $$ F_outShare_1 with ⟨T320, F_outShare_1⟩
  icases (bigSepL_pop (fun k : Fin 32 => peerOutAt c 1 k) 28 29 [30, 31]) $$ F_peerOut_1 with ⟨T321, F_peerOut_1⟩
  rw [owed_step_149 c, owed_step_150 c, owed_step_151 c]
  rw [wp_bind]
  iapply (part90_spec' m K c _ (owedAfter c 152) ((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))
  isplitl [T313]
  · iexact T313
  isplitl [T314]
  · iexact T314
  isplitl [T315]
  · iexact T315
  isplitl [T316]
  · iexact T316
  isplitl [T317]
  · iexact T317
  isplitl [T318]
  · iexact T318
  isplitl [T319]
  · iexact T319
  isplitl [T320]
  · iexact T320
  isplitl [T321]
  · iexact T321
  isplitl [H_owes]
  · iexact H_owes
  iintro %r ⟨P322, P323, P324, H_owes⟩
  obtain ⟨v2339, c32_i32_2797⟩ := r
  try dsimp only
  ihave F_recvRes_agS_1 := (bigSepL_snoc (fun k : Fin 32 => recvRes m K agS c 1 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_recvRes_agS_1 P322]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_recvRes_agS_1 P323]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_recvRes_agS_1 P324]
  · isplitl [F_recvRes_agS_1] <;> iassumption
  -- k0_part91
  icases (bigSepL_pop (fun k : Fin 32 => copyRes m K agS agR c 1 k) 29 30 [31]) $$ F_copyRes_agS_1 with ⟨T325, F_copyRes_agS_1⟩
  icases (bigSepL_pop (fun k : Fin 32 => outShareAt m c 1 k) 29 30 [31]) $$ F_outShare_1 with ⟨T326, F_outShare_1⟩
  icases (bigSepL_pop (fun k : Fin 32 => peerOutAt c 1 k) 29 30 [31]) $$ F_peerOut_1 with ⟨T327, F_peerOut_1⟩
  icases (bigSepL_pop (fun k : Fin 32 => copyRes m K agS agR c 1 k) 30 31 []) $$ F_copyRes_agS_1 with ⟨T328, F_copyRes_agS_1⟩
  icases (bigSepL_pop (fun k : Fin 32 => outShareAt m c 1 k) 30 31 []) $$ F_outShare_1 with ⟨T329, F_outShare_1⟩
  icases (bigSepL_pop (fun k : Fin 32 => peerOutAt c 1 k) 30 31 []) $$ F_peerOut_1 with ⟨T330, F_peerOut_1⟩
  rw [owed_step_152 c, owed_step_153 c]
  rw [wp_bind]
  iapply (part91_spec' m K c _ _ _ (owedAfter c 154) (((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))
  isplitl [T325]
  · iexact T325
  isplitl [T326]
  · iexact T326
  isplitl [T327]
  · iexact T327
  isplitl [T328]
  · iexact T328
  isplitl [T329]
  · iexact T329
  isplitl [T330]
  · iexact T330
  isplitl [H_owes]
  · iexact H_owes
  iintro %r ⟨P331, P332, H_owes⟩
  try dsimp only
  ihave F_recvRes_agS_1 := (bigSepL_snoc (fun k : Fin 32 => recvRes m K agS c 1 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_recvRes_agS_1 P331]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_recvRes_agS_1 P332]
  · isplitl [F_recvRes_agS_1] <;> iassumption
  -- k0_part92
  ihave T333 := (bigSepL_one (fun k : Fin 32 => copyRes m K agS agR c 1 k) 31) $$ F_copyRes_agS_1
  ihave T334 := (bigSepL_one (fun k : Fin 32 => outShareAt m c 1 k) 31) $$ F_outShare_1
  ihave T335 := (bigSepL_one (fun k : Fin 32 => peerOutAt c 1 k) 31) $$ F_peerOut_1
  icases (bigSepL_pop (fun k : Fin 32 => recvRes m K rsS c 0 k) 1 2 [3, 4, 5, 6, 7, 8, 9, 10, 11, 12, 13, 14, 15, 16, 17, 18, 19, 20, 21, 22, 23, 24, 25, 26, 27, 28, 29, 30, 31]) $$ F_recvRes_rsS_0 with ⟨T336, F_recvRes_rsS_0⟩
  icases (bigSepL_pop (fun k : Fin 32 => recvRes m K rsS c 0 k) 2 3 [4, 5, 6, 7, 8, 9, 10, 11, 12, 13, 14, 15, 16, 17, 18, 19, 20, 21, 22, 23, 24, 25, 26, 27, 28, 29, 30, 31]) $$ F_recvRes_rsS_0 with ⟨T337, F_recvRes_rsS_0⟩
  icases (bigSepL_pop (fun k : Fin 32 => recvRes m K rsS c 0 k) 3 4 [5, 6, 7, 8, 9, 10, 11, 12, 13, 14, 15, 16, 17, 18, 19, 20, 21, 22, 23, 24, 25, 26, 27, 28, 29, 30, 31]) $$ F_recvRes_rsS_0 with ⟨T338, F_recvRes_rsS_0⟩
  rw [owed_step_154 c]
  rw [wp_bind]
  iapply (part92_spec' m K c (owedAfter c 155) (mayWait_end (F := F) c (.dma (semAt (arr rsS) 0 1))) (mayWait_end (F := F) c (.dma (semAt (arr rsS) 0 2))) (mayWait_end (F := F) c (.dma (semAt (arr rsS) 0 3))) ((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))
  isplitl [T333]
  · iexact T333
  isplitl [T334]
  · iexact T334
  isplitl [T335]
  · iexact T335
  isplitl [T336]
  · iexact T336
  isplitl [T337]
  · iexact T337
  isplitl [T338]
  · iexact T338
  isplitl []
  · iexact Hlev
  isplitl [H_owes]
  · iexact H_owes
  iintro %r ⟨P339, P340, P341, P342, P343, P344, P345, H_owes⟩
  try dsimp only
  ihave F_recvRes_agS_1 := (bigSepL_snoc (fun k : Fin 32 => recvRes m K agS c 1 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_recvRes_agS_1 P339]
  · isplitl [F_recvRes_agS_1] <;> iassumption
  ihave F_got_rsS_0 := (bigSepL_wrap (fun k : Fin 32 => accSrcAt m c 0 k) 1) $$ P340
  ihave F_closed_rsS_0 := (bigSepL_wrap (fun k : Fin 32 => closedAt m K c 0 k rsS) 1) $$ P341
  ihave F_got_rsS_0 := (bigSepL_snoc (fun k : Fin 32 => accSrcAt m c 0 k) [1] 2 [1, 2] rfl) $$ [F_got_rsS_0 P342]
  · isplitl [F_got_rsS_0] <;> iassumption
  ihave F_closed_rsS_0 := (bigSepL_snoc (fun k : Fin 32 => closedAt m K c 0 k rsS) [1] 2 [1, 2] rfl) $$ [F_closed_rsS_0 P343]
  · isplitl [F_closed_rsS_0] <;> iassumption
  ihave F_got_rsS_0 := (bigSepL_snoc (fun k : Fin 32 => accSrcAt m c 0 k) [1, 2] 3 [1, 2, 3] rfl) $$ [F_got_rsS_0 P344]
  · isplitl [F_got_rsS_0] <;> iassumption
  ihave F_closed_rsS_0 := (bigSepL_snoc (fun k : Fin 32 => closedAt m K c 0 k rsS) [1, 2] 3 [1, 2, 3] rfl) $$ [F_closed_rsS_0 P345]
  · isplitl [F_closed_rsS_0] <;> iassumption
  -- k0_part93
  icases (bigSepL_pop (fun k : Fin 32 => recvRes m K rsS c 0 k) 4 5 [6, 7, 8, 9, 10, 11, 12, 13, 14, 15, 16, 17, 18, 19, 20, 21, 22, 23, 24, 25, 26, 27, 28, 29, 30, 31]) $$ F_recvRes_rsS_0 with ⟨T346, F_recvRes_rsS_0⟩
  icases (bigSepL_pop (fun k : Fin 32 => recvRes m K rsS c 0 k) 5 6 [7, 8, 9, 10, 11, 12, 13, 14, 15, 16, 17, 18, 19, 20, 21, 22, 23, 24, 25, 26, 27, 28, 29, 30, 31]) $$ F_recvRes_rsS_0 with ⟨T347, F_recvRes_rsS_0⟩
  icases (bigSepL_pop (fun k : Fin 32 => recvRes m K rsS c 0 k) 6 7 [8, 9, 10, 11, 12, 13, 14, 15, 16, 17, 18, 19, 20, 21, 22, 23, 24, 25, 26, 27, 28, 29, 30, 31]) $$ F_recvRes_rsS_0 with ⟨T348, F_recvRes_rsS_0⟩
  icases (bigSepL_pop (fun k : Fin 32 => recvRes m K rsS c 0 k) 7 8 [9, 10, 11, 12, 13, 14, 15, 16, 17, 18, 19, 20, 21, 22, 23, 24, 25, 26, 27, 28, 29, 30, 31]) $$ F_recvRes_rsS_0 with ⟨T349, F_recvRes_rsS_0⟩
  rw [wp_bind]
  iapply (part93_spec' m K c (insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))
  isplitl [T346]
  · iexact T346
  isplitl [T347]
  · iexact T347
  isplitl [T348]
  · iexact T348
  isplitl [T349]
  · iexact T349
  isplitl []
  · iexact Hlev
  isplitl [H_owes]
  · iexact H_owes
  iintro %r ⟨P350, P351, P352, P353, P354, P355, P356, P357, H_owes⟩
  try dsimp only
  ihave F_got_rsS_0 := (bigSepL_snoc (fun k : Fin 32 => accSrcAt m c 0 k) [1, 2, 3] 4 [1, 2, 3, 4] rfl) $$ [F_got_rsS_0 P350]
  · isplitl [F_got_rsS_0] <;> iassumption
  ihave F_closed_rsS_0 := (bigSepL_snoc (fun k : Fin 32 => closedAt m K c 0 k rsS) [1, 2, 3] 4 [1, 2, 3, 4] rfl) $$ [F_closed_rsS_0 P351]
  · isplitl [F_closed_rsS_0] <;> iassumption
  ihave F_got_rsS_0 := (bigSepL_snoc (fun k : Fin 32 => accSrcAt m c 0 k) [1, 2, 3, 4] 5 [1, 2, 3, 4, 5] rfl) $$ [F_got_rsS_0 P352]
  · isplitl [F_got_rsS_0] <;> iassumption
  ihave F_closed_rsS_0 := (bigSepL_snoc (fun k : Fin 32 => closedAt m K c 0 k rsS) [1, 2, 3, 4] 5 [1, 2, 3, 4, 5] rfl) $$ [F_closed_rsS_0 P353]
  · isplitl [F_closed_rsS_0] <;> iassumption
  ihave F_got_rsS_0 := (bigSepL_snoc (fun k : Fin 32 => accSrcAt m c 0 k) [1, 2, 3, 4, 5] 6 [1, 2, 3, 4, 5, 6] rfl) $$ [F_got_rsS_0 P354]
  · isplitl [F_got_rsS_0] <;> iassumption
  ihave F_closed_rsS_0 := (bigSepL_snoc (fun k : Fin 32 => closedAt m K c 0 k rsS) [1, 2, 3, 4, 5] 6 [1, 2, 3, 4, 5, 6] rfl) $$ [F_closed_rsS_0 P355]
  · isplitl [F_closed_rsS_0] <;> iassumption
  ihave F_got_rsS_0 := (bigSepL_snoc (fun k : Fin 32 => accSrcAt m c 0 k) [1, 2, 3, 4, 5, 6] 7 [1, 2, 3, 4, 5, 6, 7] rfl) $$ [F_got_rsS_0 P356]
  · isplitl [F_got_rsS_0] <;> iassumption
  ihave F_closed_rsS_0 := (bigSepL_snoc (fun k : Fin 32 => closedAt m K c 0 k rsS) [1, 2, 3, 4, 5, 6] 7 [1, 2, 3, 4, 5, 6, 7] rfl) $$ [F_closed_rsS_0 P357]
  · isplitl [F_closed_rsS_0] <;> iassumption
  -- k0_part94
  icases (bigSepL_pop (fun k : Fin 32 => recvRes m K rsS c 0 k) 8 9 [10, 11, 12, 13, 14, 15, 16, 17, 18, 19, 20, 21, 22, 23, 24, 25, 26, 27, 28, 29, 30, 31]) $$ F_recvRes_rsS_0 with ⟨T358, F_recvRes_rsS_0⟩
  icases (bigSepL_pop (fun k : Fin 32 => recvRes m K rsS c 0 k) 9 10 [11, 12, 13, 14, 15, 16, 17, 18, 19, 20, 21, 22, 23, 24, 25, 26, 27, 28, 29, 30, 31]) $$ F_recvRes_rsS_0 with ⟨T359, F_recvRes_rsS_0⟩
  icases (bigSepL_pop (fun k : Fin 32 => recvRes m K rsS c 0 k) 10 11 [12, 13, 14, 15, 16, 17, 18, 19, 20, 21, 22, 23, 24, 25, 26, 27, 28, 29, 30, 31]) $$ F_recvRes_rsS_0 with ⟨T360, F_recvRes_rsS_0⟩
  rw [wp_bind]
  iapply (part94_spec' m K c (insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))
  isplitl [T358]
  · iexact T358
  isplitl [T359]
  · iexact T359
  isplitl [T360]
  · iexact T360
  isplitl []
  · iexact Hlev
  isplitl [H_owes]
  · iexact H_owes
  iintro %r ⟨P361, P362, P363, P364, P365, P366, H_owes⟩
  try dsimp only
  ihave F_got_rsS_0 := (bigSepL_snoc (fun k : Fin 32 => accSrcAt m c 0 k) [1, 2, 3, 4, 5, 6, 7] 8 [1, 2, 3, 4, 5, 6, 7, 8] rfl) $$ [F_got_rsS_0 P361]
  · isplitl [F_got_rsS_0] <;> iassumption
  ihave F_closed_rsS_0 := (bigSepL_snoc (fun k : Fin 32 => closedAt m K c 0 k rsS) [1, 2, 3, 4, 5, 6, 7] 8 [1, 2, 3, 4, 5, 6, 7, 8] rfl) $$ [F_closed_rsS_0 P362]
  · isplitl [F_closed_rsS_0] <;> iassumption
  ihave F_got_rsS_0 := (bigSepL_snoc (fun k : Fin 32 => accSrcAt m c 0 k) [1, 2, 3, 4, 5, 6, 7, 8] 9 [1, 2, 3, 4, 5, 6, 7, 8, 9] rfl) $$ [F_got_rsS_0 P363]
  · isplitl [F_got_rsS_0] <;> iassumption
  ihave F_closed_rsS_0 := (bigSepL_snoc (fun k : Fin 32 => closedAt m K c 0 k rsS) [1, 2, 3, 4, 5, 6, 7, 8] 9 [1, 2, 3, 4, 5, 6, 7, 8, 9] rfl) $$ [F_closed_rsS_0 P364]
  · isplitl [F_closed_rsS_0] <;> iassumption
  ihave F_got_rsS_0 := (bigSepL_snoc (fun k : Fin 32 => accSrcAt m c 0 k) [1, 2, 3, 4, 5, 6, 7, 8, 9] 10 [1, 2, 3, 4, 5, 6, 7, 8, 9, 10] rfl) $$ [F_got_rsS_0 P365]
  · isplitl [F_got_rsS_0] <;> iassumption
  ihave F_closed_rsS_0 := (bigSepL_snoc (fun k : Fin 32 => closedAt m K c 0 k rsS) [1, 2, 3, 4, 5, 6, 7, 8, 9] 10 [1, 2, 3, 4, 5, 6, 7, 8, 9, 10] rfl) $$ [F_closed_rsS_0 P366]
  · isplitl [F_closed_rsS_0] <;> iassumption
  -- k0_part95
  icases (bigSepL_pop (fun k : Fin 32 => recvRes m K rsS c 0 k) 11 12 [13, 14, 15, 16, 17, 18, 19, 20, 21, 22, 23, 24, 25, 26, 27, 28, 29, 30, 31]) $$ F_recvRes_rsS_0 with ⟨T367, F_recvRes_rsS_0⟩
  icases (bigSepL_pop (fun k : Fin 32 => recvRes m K rsS c 0 k) 12 13 [14, 15, 16, 17, 18, 19, 20, 21, 22, 23, 24, 25, 26, 27, 28, 29, 30, 31]) $$ F_recvRes_rsS_0 with ⟨T368, F_recvRes_rsS_0⟩
  icases (bigSepL_pop (fun k : Fin 32 => recvRes m K rsS c 0 k) 13 14 [15, 16, 17, 18, 19, 20, 21, 22, 23, 24, 25, 26, 27, 28, 29, 30, 31]) $$ F_recvRes_rsS_0 with ⟨T369, F_recvRes_rsS_0⟩
  icases (bigSepL_pop (fun k : Fin 32 => recvRes m K rsS c 0 k) 14 15 [16, 17, 18, 19, 20, 21, 22, 23, 24, 25, 26, 27, 28, 29, 30, 31]) $$ F_recvRes_rsS_0 with ⟨T370, F_recvRes_rsS_0⟩
  rw [wp_bind]
  iapply (part95_spec' m K c (insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))
  isplitl [T367]
  · iexact T367
  isplitl [T368]
  · iexact T368
  isplitl [T369]
  · iexact T369
  isplitl [T370]
  · iexact T370
  isplitl []
  · iexact Hlev
  isplitl [H_owes]
  · iexact H_owes
  iintro %r ⟨P371, P372, P373, P374, P375, P376, P377, P378, H_owes⟩
  try dsimp only
  ihave F_got_rsS_0 := (bigSepL_snoc (fun k : Fin 32 => accSrcAt m c 0 k) [1, 2, 3, 4, 5, 6, 7, 8, 9, 10] 11 [1, 2, 3, 4, 5, 6, 7, 8, 9, 10, 11] rfl) $$ [F_got_rsS_0 P371]
  · isplitl [F_got_rsS_0] <;> iassumption
  ihave F_closed_rsS_0 := (bigSepL_snoc (fun k : Fin 32 => closedAt m K c 0 k rsS) [1, 2, 3, 4, 5, 6, 7, 8, 9, 10] 11 [1, 2, 3, 4, 5, 6, 7, 8, 9, 10, 11] rfl) $$ [F_closed_rsS_0 P372]
  · isplitl [F_closed_rsS_0] <;> iassumption
  ihave F_got_rsS_0 := (bigSepL_snoc (fun k : Fin 32 => accSrcAt m c 0 k) [1, 2, 3, 4, 5, 6, 7, 8, 9, 10, 11] 12 [1, 2, 3, 4, 5, 6, 7, 8, 9, 10, 11, 12] rfl) $$ [F_got_rsS_0 P373]
  · isplitl [F_got_rsS_0] <;> iassumption
  ihave F_closed_rsS_0 := (bigSepL_snoc (fun k : Fin 32 => closedAt m K c 0 k rsS) [1, 2, 3, 4, 5, 6, 7, 8, 9, 10, 11] 12 [1, 2, 3, 4, 5, 6, 7, 8, 9, 10, 11, 12] rfl) $$ [F_closed_rsS_0 P374]
  · isplitl [F_closed_rsS_0] <;> iassumption
  ihave F_got_rsS_0 := (bigSepL_snoc (fun k : Fin 32 => accSrcAt m c 0 k) [1, 2, 3, 4, 5, 6, 7, 8, 9, 10, 11, 12] 13 [1, 2, 3, 4, 5, 6, 7, 8, 9, 10, 11, 12, 13] rfl) $$ [F_got_rsS_0 P375]
  · isplitl [F_got_rsS_0] <;> iassumption
  ihave F_closed_rsS_0 := (bigSepL_snoc (fun k : Fin 32 => closedAt m K c 0 k rsS) [1, 2, 3, 4, 5, 6, 7, 8, 9, 10, 11, 12] 13 [1, 2, 3, 4, 5, 6, 7, 8, 9, 10, 11, 12, 13] rfl) $$ [F_closed_rsS_0 P376]
  · isplitl [F_closed_rsS_0] <;> iassumption
  ihave F_got_rsS_0 := (bigSepL_snoc (fun k : Fin 32 => accSrcAt m c 0 k) [1, 2, 3, 4, 5, 6, 7, 8, 9, 10, 11, 12, 13] 14 [1, 2, 3, 4, 5, 6, 7, 8, 9, 10, 11, 12, 13, 14] rfl) $$ [F_got_rsS_0 P377]
  · isplitl [F_got_rsS_0] <;> iassumption
  ihave F_closed_rsS_0 := (bigSepL_snoc (fun k : Fin 32 => closedAt m K c 0 k rsS) [1, 2, 3, 4, 5, 6, 7, 8, 9, 10, 11, 12, 13] 14 [1, 2, 3, 4, 5, 6, 7, 8, 9, 10, 11, 12, 13, 14] rfl) $$ [F_closed_rsS_0 P378]
  · isplitl [F_closed_rsS_0] <;> iassumption
  -- k0_part96
  icases (bigSepL_pop (fun k : Fin 32 => recvRes m K rsS c 0 k) 15 16 [17, 18, 19, 20, 21, 22, 23, 24, 25, 26, 27, 28, 29, 30, 31]) $$ F_recvRes_rsS_0 with ⟨T379, F_recvRes_rsS_0⟩
  icases (bigSepL_pop (fun k : Fin 32 => recvRes m K rsS c 0 k) 16 17 [18, 19, 20, 21, 22, 23, 24, 25, 26, 27, 28, 29, 30, 31]) $$ F_recvRes_rsS_0 with ⟨T380, F_recvRes_rsS_0⟩
  icases (bigSepL_pop (fun k : Fin 32 => recvRes m K rsS c 0 k) 17 18 [19, 20, 21, 22, 23, 24, 25, 26, 27, 28, 29, 30, 31]) $$ F_recvRes_rsS_0 with ⟨T381, F_recvRes_rsS_0⟩
  icases (bigSepL_pop (fun k : Fin 32 => recvRes m K rsS c 0 k) 18 19 [20, 21, 22, 23, 24, 25, 26, 27, 28, 29, 30, 31]) $$ F_recvRes_rsS_0 with ⟨T382, F_recvRes_rsS_0⟩
  rw [wp_bind]
  iapply (part96_spec' m K c (insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))
  isplitl [T379]
  · iexact T379
  isplitl [T380]
  · iexact T380
  isplitl [T381]
  · iexact T381
  isplitl [T382]
  · iexact T382
  isplitl []
  · iexact Hlev
  isplitl [H_owes]
  · iexact H_owes
  iintro %r ⟨P383, P384, P385, P386, P387, P388, P389, P390, H_owes⟩
  try dsimp only
  ihave F_got_rsS_0 := (bigSepL_snoc (fun k : Fin 32 => accSrcAt m c 0 k) [1, 2, 3, 4, 5, 6, 7, 8, 9, 10, 11, 12, 13, 14] 15 [1, 2, 3, 4, 5, 6, 7, 8, 9, 10, 11, 12, 13, 14, 15] rfl) $$ [F_got_rsS_0 P383]
  · isplitl [F_got_rsS_0] <;> iassumption
  ihave F_closed_rsS_0 := (bigSepL_snoc (fun k : Fin 32 => closedAt m K c 0 k rsS) [1, 2, 3, 4, 5, 6, 7, 8, 9, 10, 11, 12, 13, 14] 15 [1, 2, 3, 4, 5, 6, 7, 8, 9, 10, 11, 12, 13, 14, 15] rfl) $$ [F_closed_rsS_0 P384]
  · isplitl [F_closed_rsS_0] <;> iassumption
  ihave F_got_rsS_0 := (bigSepL_snoc (fun k : Fin 32 => accSrcAt m c 0 k) [1, 2, 3, 4, 5, 6, 7, 8, 9, 10, 11, 12, 13, 14, 15] 16 [1, 2, 3, 4, 5, 6, 7, 8, 9, 10, 11, 12, 13, 14, 15, 16] rfl) $$ [F_got_rsS_0 P385]
  · isplitl [F_got_rsS_0] <;> iassumption
  ihave F_closed_rsS_0 := (bigSepL_snoc (fun k : Fin 32 => closedAt m K c 0 k rsS) [1, 2, 3, 4, 5, 6, 7, 8, 9, 10, 11, 12, 13, 14, 15] 16 [1, 2, 3, 4, 5, 6, 7, 8, 9, 10, 11, 12, 13, 14, 15, 16] rfl) $$ [F_closed_rsS_0 P386]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16] 17 [1, 2, 3, 4, 5, 6, 7, 8, 9, 10, 11, 12, 13, 14, 15, 16, 17] rfl) $$ [F_got_rsS_0 P387]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16] 17 [1, 2, 3, 4, 5, 6, 7, 8, 9, 10, 11, 12, 13, 14, 15, 16, 17] rfl) $$ [F_closed_rsS_0 P388]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17] 18 [1, 2, 3, 4, 5, 6, 7, 8, 9, 10, 11, 12, 13, 14, 15, 16, 17, 18] rfl) $$ [F_got_rsS_0 P389]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17] 18 [1, 2, 3, 4, 5, 6, 7, 8, 9, 10, 11, 12, 13, 14, 15, 16, 17, 18] rfl) $$ [F_closed_rsS_0 P390]
  · isplitl [F_closed_rsS_0] <;> iassumption
  -- k0_part97
  icases (bigSepL_pop (fun k : Fin 32 => recvRes m K rsS c 0 k) 19 20 [21, 22, 23, 24, 25, 26, 27, 28, 29, 30, 31]) $$ F_recvRes_rsS_0 with ⟨T391, F_recvRes_rsS_0⟩
  icases (bigSepL_pop (fun k : Fin 32 => recvRes m K rsS c 0 k) 20 21 [22, 23, 24, 25, 26, 27, 28, 29, 30, 31]) $$ F_recvRes_rsS_0 with ⟨T392, F_recvRes_rsS_0⟩
  icases (bigSepL_pop (fun k : Fin 32 => recvRes m K rsS c 0 k) 21 22 [23, 24, 25, 26, 27, 28, 29, 30, 31]) $$ F_recvRes_rsS_0 with ⟨T393, F_recvRes_rsS_0⟩
  icases (bigSepL_pop (fun k : Fin 32 => recvRes m K rsS c 0 k) 22 23 [24, 25, 26, 27, 28, 29, 30, 31]) $$ F_recvRes_rsS_0 with ⟨T394, F_recvRes_rsS_0⟩
  rw [wp_bind]
  iapply (part97_spec' m K c (insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))
  isplitl [T391]
  · iexact T391
  isplitl [T392]
  · iexact T392
  isplitl [T393]
  · iexact T393
  isplitl [T394]
  · iexact T394
  isplitl []
  · iexact Hlev
  isplitl [H_owes]
  · iexact H_owes
  iintro %r ⟨P395, P396, P397, P398, P399, P400, P401, P402, H_owes⟩
  try dsimp only
  ihave F_got_rsS_0 := (bigSepL_snoc (fun k : Fin 32 => accSrcAt m c 0 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_got_rsS_0 P395]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_closed_rsS_0 P396]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_got_rsS_0 P397]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_closed_rsS_0 P398]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_got_rsS_0 P399]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_closed_rsS_0 P400]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_got_rsS_0 P401]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_closed_rsS_0 P402]
  · isplitl [F_closed_rsS_0] <;> iassumption
  -- k0_part98
  icases (bigSepL_pop (fun k : Fin 32 => recvRes m K rsS c 0 k) 23 24 [25, 26, 27, 28, 29, 30, 31]) $$ F_recvRes_rsS_0 with ⟨T403, F_recvRes_rsS_0⟩
  icases (bigSepL_pop (fun k : Fin 32 => recvRes m K rsS c 0 k) 24 25 [26, 27, 28, 29, 30, 31]) $$ F_recvRes_rsS_0 with ⟨T404, F_recvRes_rsS_0⟩
  icases (bigSepL_pop (fun k : Fin 32 => recvRes m K rsS c 0 k) 25 26 [27, 28, 29, 30, 31]) $$ F_recvRes_rsS_0 with ⟨T405, F_recvRes_rsS_0⟩
  rw [wp_bind]
  iapply (part98_spec' m K c (insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))
  isplitl [T403]
  · iexact T403
  isplitl [T404]
  · iexact T404
  isplitl [T405]
  · iexact T405
  isplitl []
  · iexact Hlev
  isplitl [H_owes]
  · iexact H_owes
  iintro %r ⟨P406, P407, P408, P409, P410, P411, H_owes⟩
  try dsimp only
  ihave F_got_rsS_0 := (bigSepL_snoc (fun k : Fin 32 => accSrcAt m c 0 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_got_rsS_0 P406]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_closed_rsS_0 P407]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_got_rsS_0 P408]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_closed_rsS_0 P409]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_got_rsS_0 P410]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_closed_rsS_0 P411]
  · isplitl [F_closed_rsS_0] <;> iassumption
  -- k0_part99
  icases (bigSepL_pop (fun k : Fin 32 => recvRes m K rsS c 0 k) 26 27 [28, 29, 30, 31]) $$ F_recvRes_rsS_0 with ⟨T412, F_recvRes_rsS_0⟩
  icases (bigSepL_pop (fun k : Fin 32 => recvRes m K rsS c 0 k) 27 28 [29, 30, 31]) $$ F_recvRes_rsS_0 with ⟨T413, F_recvRes_rsS_0⟩
  icases (bigSepL_pop (fun k : Fin 32 => recvRes m K rsS c 0 k) 28 29 [30, 31]) $$ F_recvRes_rsS_0 with ⟨T414, F_recvRes_rsS_0⟩
  icases (bigSepL_pop (fun k : Fin 32 => recvRes m K rsS c 0 k) 29 30 [31]) $$ F_recvRes_rsS_0 with ⟨T415, F_recvRes_rsS_0⟩
  rw [wp_bind]
  iapply (part99_spec' m K c (insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))
  isplitl [T412]
  · iexact T412
  isplitl [T413]
  · iexact T413
  isplitl [T414]
  · iexact T414
  isplitl [T415]
  · iexact T415
  isplitl []
  · iexact Hlev
  isplitl [H_owes]
  · iexact H_owes
  iintro %r ⟨P416, P417, P418, P419, P420, P421, P422, P423, H_owes⟩
  try dsimp only
  ihave F_got_rsS_0 := (bigSepL_snoc (fun k : Fin 32 => accSrcAt m c 0 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_got_rsS_0 P416]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_closed_rsS_0 P417]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_got_rsS_0 P418]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_closed_rsS_0 P419]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_got_rsS_0 P420]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_closed_rsS_0 P421]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_got_rsS_0 P422]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_closed_rsS_0 P423]
  · isplitl [F_closed_rsS_0] <;> iassumption
  -- k0_part100
  icases (bigSepL_pop (fun k : Fin 32 => recvRes m K rsS c 0 k) 30 31 []) $$ F_recvRes_rsS_0 with ⟨T424, F_recvRes_rsS_0⟩
  ihave T425 := (bigSepL_one (fun k : Fin 32 => recvRes m K rsS c 0 k) 31) $$ F_recvRes_rsS_0
  icases (bigSepL_pop (fun k : Fin 32 => recvRes m K rsS c 1 k) 1 2 [3, 4, 5, 6, 7, 8, 9, 10, 11, 12, 13, 14, 15, 16, 17, 18, 19, 20, 21, 22, 23, 24, 25, 26, 27, 28, 29, 30, 31]) $$ F_recvRes_rsS_1 with ⟨T426, F_recvRes_rsS_1⟩
  icases (bigSepL_pop (fun k : Fin 32 => recvRes m K rsS c 1 k) 2 3 [4, 5, 6, 7, 8, 9, 10, 11, 12, 13, 14, 15, 16, 17, 18, 19, 20, 21, 22, 23, 24, 25, 26, 27, 28, 29, 30, 31]) $$ F_recvRes_rsS_1 with ⟨T427, F_recvRes_rsS_1⟩
  rw [wp_bind]
  iapply (part100_spec' m K c (insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))
  isplitl [T424]
  · iexact T424
  isplitl [T425]
  · iexact T425
  isplitl [T426]
  · iexact T426
  isplitl [T427]
  · iexact T427
  isplitl []
  · iexact Hlev
  isplitl [H_owes]
  · iexact H_owes
  iintro %r ⟨P428, P429, P430, P431, P432, P433, P434, P435, H_owes⟩
  try dsimp only
  ihave F_got_rsS_0 := (bigSepL_snoc (fun k : Fin 32 => accSrcAt m c 0 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_got_rsS_0 P428]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_closed_rsS_0 P429]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_got_rsS_0 P430]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_closed_rsS_0 P431]
  · isplitl [F_closed_rsS_0] <;> iassumption
  ihave F_got_rsS_1 := (bigSepL_wrap (fun k : Fin 32 => accSrcAt m c 1 k) 1) $$ P432
  ihave F_closed_rsS_1 := (bigSepL_wrap (fun k : Fin 32 => closedAt m K c 1 k rsS) 1) $$ P433
  ihave F_got_rsS_1 := (bigSepL_snoc (fun k : Fin 32 => accSrcAt m c 1 k) [1] 2 [1, 2] rfl) $$ [F_got_rsS_1 P434]
  · isplitl [F_got_rsS_1] <;> iassumption
  ihave F_closed_rsS_1 := (bigSepL_snoc (fun k : Fin 32 => closedAt m K c 1 k rsS) [1] 2 [1, 2] rfl) $$ [F_closed_rsS_1 P435]
  · isplitl [F_closed_rsS_1] <;> iassumption
  -- k0_part101
  icases (bigSepL_pop (fun k : Fin 32 => recvRes m K rsS c 1 k) 3 4 [5, 6, 7, 8, 9, 10, 11, 12, 13, 14, 15, 16, 17, 18, 19, 20, 21, 22, 23, 24, 25, 26, 27, 28, 29, 30, 31]) $$ F_recvRes_rsS_1 with ⟨T436, F_recvRes_rsS_1⟩
  icases (bigSepL_pop (fun k : Fin 32 => recvRes m K rsS c 1 k) 4 5 [6, 7, 8, 9, 10, 11, 12, 13, 14, 15, 16, 17, 18, 19, 20, 21, 22, 23, 24, 25, 26, 27, 28, 29, 30, 31]) $$ F_recvRes_rsS_1 with ⟨T437, F_recvRes_rsS_1⟩
  icases (bigSepL_pop (fun k : Fin 32 => recvRes m K rsS c 1 k) 5 6 [7, 8, 9, 10, 11, 12, 13, 14, 15, 16, 17, 18, 19, 20, 21, 22, 23, 24, 25, 26, 27, 28, 29, 30, 31]) $$ F_recvRes_rsS_1 with ⟨T438, F_recvRes_rsS_1⟩
  icases (bigSepL_pop (fun k : Fin 32 => recvRes m K rsS c 1 k) 6 7 [8, 9, 10, 11, 12, 13, 14, 15, 16, 17, 18, 19, 20, 21, 22, 23, 24, 25, 26, 27, 28, 29, 30, 31]) $$ F_recvRes_rsS_1 with ⟨T439, F_recvRes_rsS_1⟩
  rw [wp_bind]
  iapply (part101_spec' m K c (insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))
  isplitl [T436]
  · iexact T436
  isplitl [T437]
  · iexact T437
  isplitl [T438]
  · iexact T438
  isplitl [T439]
  · iexact T439
  isplitl []
  · iexact Hlev
  isplitl [H_owes]
  · iexact H_owes
  iintro %r ⟨P440, P441, P442, P443, P444, P445, P446, P447, H_owes⟩
  try dsimp only
  ihave F_got_rsS_1 := (bigSepL_snoc (fun k : Fin 32 => accSrcAt m c 1 k) [1, 2] 3 [1, 2, 3] rfl) $$ [F_got_rsS_1 P440]
  · isplitl [F_got_rsS_1] <;> iassumption
  ihave F_closed_rsS_1 := (bigSepL_snoc (fun k : Fin 32 => closedAt m K c 1 k rsS) [1, 2] 3 [1, 2, 3] rfl) $$ [F_closed_rsS_1 P441]
  · isplitl [F_closed_rsS_1] <;> iassumption
  ihave F_got_rsS_1 := (bigSepL_snoc (fun k : Fin 32 => accSrcAt m c 1 k) [1, 2, 3] 4 [1, 2, 3, 4] rfl) $$ [F_got_rsS_1 P442]
  · isplitl [F_got_rsS_1] <;> iassumption
  ihave F_closed_rsS_1 := (bigSepL_snoc (fun k : Fin 32 => closedAt m K c 1 k rsS) [1, 2, 3] 4 [1, 2, 3, 4] rfl) $$ [F_closed_rsS_1 P443]
  · isplitl [F_closed_rsS_1] <;> iassumption
  ihave F_got_rsS_1 := (bigSepL_snoc (fun k : Fin 32 => accSrcAt m c 1 k) [1, 2, 3, 4] 5 [1, 2, 3, 4, 5] rfl) $$ [F_got_rsS_1 P444]
  · isplitl [F_got_rsS_1] <;> iassumption
  ihave F_closed_rsS_1 := (bigSepL_snoc (fun k : Fin 32 => closedAt m K c 1 k rsS) [1, 2, 3, 4] 5 [1, 2, 3, 4, 5] rfl) $$ [F_closed_rsS_1 P445]
  · isplitl [F_closed_rsS_1] <;> iassumption
  ihave F_got_rsS_1 := (bigSepL_snoc (fun k : Fin 32 => accSrcAt m c 1 k) [1, 2, 3, 4, 5] 6 [1, 2, 3, 4, 5, 6] rfl) $$ [F_got_rsS_1 P446]
  · isplitl [F_got_rsS_1] <;> iassumption
  ihave F_closed_rsS_1 := (bigSepL_snoc (fun k : Fin 32 => closedAt m K c 1 k rsS) [1, 2, 3, 4, 5] 6 [1, 2, 3, 4, 5, 6] rfl) $$ [F_closed_rsS_1 P447]
  · isplitl [F_closed_rsS_1] <;> iassumption
  -- k0_part102
  icases (bigSepL_pop (fun k : Fin 32 => recvRes m K rsS c 1 k) 7 8 [9, 10, 11, 12, 13, 14, 15, 16, 17, 18, 19, 20, 21, 22, 23, 24, 25, 26, 27, 28, 29, 30, 31]) $$ F_recvRes_rsS_1 with ⟨T448, F_recvRes_rsS_1⟩
  icases (bigSepL_pop (fun k : Fin 32 => recvRes m K rsS c 1 k) 8 9 [10, 11, 12, 13, 14, 15, 16, 17, 18, 19, 20, 21, 22, 23, 24, 25, 26, 27, 28, 29, 30, 31]) $$ F_recvRes_rsS_1 with ⟨T449, F_recvRes_rsS_1⟩
  icases (bigSepL_pop (fun k : Fin 32 => recvRes m K rsS c 1 k) 9 10 [11, 12, 13, 14, 15, 16, 17, 18, 19, 20, 21, 22, 23, 24, 25, 26, 27, 28, 29, 30, 31]) $$ F_recvRes_rsS_1 with ⟨T450, F_recvRes_rsS_1⟩
  rw [wp_bind]
  iapply (part102_spec' m K c (insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))
  isplitl [T448]
  · iexact T448
  isplitl [T449]
  · iexact T449
  isplitl [T450]
  · iexact T450
  isplitl []
  · iexact Hlev
  isplitl [H_owes]
  · iexact H_owes
  iintro %r ⟨P451, P452, P453, P454, P455, P456, H_owes⟩
  try dsimp only
  ihave F_got_rsS_1 := (bigSepL_snoc (fun k : Fin 32 => accSrcAt m c 1 k) [1, 2, 3, 4, 5, 6] 7 [1, 2, 3, 4, 5, 6, 7] rfl) $$ [F_got_rsS_1 P451]
  · isplitl [F_got_rsS_1] <;> iassumption
  ihave F_closed_rsS_1 := (bigSepL_snoc (fun k : Fin 32 => closedAt m K c 1 k rsS) [1, 2, 3, 4, 5, 6] 7 [1, 2, 3, 4, 5, 6, 7] rfl) $$ [F_closed_rsS_1 P452]
  · isplitl [F_closed_rsS_1] <;> iassumption
  ihave F_got_rsS_1 := (bigSepL_snoc (fun k : Fin 32 => accSrcAt m c 1 k) [1, 2, 3, 4, 5, 6, 7] 8 [1, 2, 3, 4, 5, 6, 7, 8] rfl) $$ [F_got_rsS_1 P453]
  · isplitl [F_got_rsS_1] <;> iassumption
  ihave F_closed_rsS_1 := (bigSepL_snoc (fun k : Fin 32 => closedAt m K c 1 k rsS) [1, 2, 3, 4, 5, 6, 7] 8 [1, 2, 3, 4, 5, 6, 7, 8] rfl) $$ [F_closed_rsS_1 P454]
  · isplitl [F_closed_rsS_1] <;> iassumption
  ihave F_got_rsS_1 := (bigSepL_snoc (fun k : Fin 32 => accSrcAt m c 1 k) [1, 2, 3, 4, 5, 6, 7, 8] 9 [1, 2, 3, 4, 5, 6, 7, 8, 9] rfl) $$ [F_got_rsS_1 P455]
  · isplitl [F_got_rsS_1] <;> iassumption
  ihave F_closed_rsS_1 := (bigSepL_snoc (fun k : Fin 32 => closedAt m K c 1 k rsS) [1, 2, 3, 4, 5, 6, 7, 8] 9 [1, 2, 3, 4, 5, 6, 7, 8, 9] rfl) $$ [F_closed_rsS_1 P456]
  · isplitl [F_closed_rsS_1] <;> iassumption
  -- k0_part103
  icases (bigSepL_pop (fun k : Fin 32 => recvRes m K rsS c 1 k) 10 11 [12, 13, 14, 15, 16, 17, 18, 19, 20, 21, 22, 23, 24, 25, 26, 27, 28, 29, 30, 31]) $$ F_recvRes_rsS_1 with ⟨T457, F_recvRes_rsS_1⟩
  icases (bigSepL_pop (fun k : Fin 32 => recvRes m K rsS c 1 k) 11 12 [13, 14, 15, 16, 17, 18, 19, 20, 21, 22, 23, 24, 25, 26, 27, 28, 29, 30, 31]) $$ F_recvRes_rsS_1 with ⟨T458, F_recvRes_rsS_1⟩
  icases (bigSepL_pop (fun k : Fin 32 => recvRes m K rsS c 1 k) 12 13 [14, 15, 16, 17, 18, 19, 20, 21, 22, 23, 24, 25, 26, 27, 28, 29, 30, 31]) $$ F_recvRes_rsS_1 with ⟨T459, F_recvRes_rsS_1⟩
  icases (bigSepL_pop (fun k : Fin 32 => recvRes m K rsS c 1 k) 13 14 [15, 16, 17, 18, 19, 20, 21, 22, 23, 24, 25, 26, 27, 28, 29, 30, 31]) $$ F_recvRes_rsS_1 with ⟨T460, F_recvRes_rsS_1⟩
  rw [wp_bind]
  iapply (part103_spec' m K c (insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))
  isplitl [T457]
  · iexact T457
  isplitl [T458]
  · iexact T458
  isplitl [T459]
  · iexact T459
  isplitl [T460]
  · iexact T460
  isplitl []
  · iexact Hlev
  isplitl [H_owes]
  · iexact H_owes
  iintro %r ⟨P461, P462, P463, P464, P465, P466, P467, P468, H_owes⟩
  try dsimp only
  ihave F_got_rsS_1 := (bigSepL_snoc (fun k : Fin 32 => accSrcAt m c 1 k) [1, 2, 3, 4, 5, 6, 7, 8, 9] 10 [1, 2, 3, 4, 5, 6, 7, 8, 9, 10] rfl) $$ [F_got_rsS_1 P461]
  · isplitl [F_got_rsS_1] <;> iassumption
  ihave F_closed_rsS_1 := (bigSepL_snoc (fun k : Fin 32 => closedAt m K c 1 k rsS) [1, 2, 3, 4, 5, 6, 7, 8, 9] 10 [1, 2, 3, 4, 5, 6, 7, 8, 9, 10] rfl) $$ [F_closed_rsS_1 P462]
  · isplitl [F_closed_rsS_1] <;> iassumption
  ihave F_got_rsS_1 := (bigSepL_snoc (fun k : Fin 32 => accSrcAt m c 1 k) [1, 2, 3, 4, 5, 6, 7, 8, 9, 10] 11 [1, 2, 3, 4, 5, 6, 7, 8, 9, 10, 11] rfl) $$ [F_got_rsS_1 P463]
  · isplitl [F_got_rsS_1] <;> iassumption
  ihave F_closed_rsS_1 := (bigSepL_snoc (fun k : Fin 32 => closedAt m K c 1 k rsS) [1, 2, 3, 4, 5, 6, 7, 8, 9, 10] 11 [1, 2, 3, 4, 5, 6, 7, 8, 9, 10, 11] rfl) $$ [F_closed_rsS_1 P464]
  · isplitl [F_closed_rsS_1] <;> iassumption
  ihave F_got_rsS_1 := (bigSepL_snoc (fun k : Fin 32 => accSrcAt m c 1 k) [1, 2, 3, 4, 5, 6, 7, 8, 9, 10, 11] 12 [1, 2, 3, 4, 5, 6, 7, 8, 9, 10, 11, 12] rfl) $$ [F_got_rsS_1 P465]
  · isplitl [F_got_rsS_1] <;> iassumption
  ihave F_closed_rsS_1 := (bigSepL_snoc (fun k : Fin 32 => closedAt m K c 1 k rsS) [1, 2, 3, 4, 5, 6, 7, 8, 9, 10, 11] 12 [1, 2, 3, 4, 5, 6, 7, 8, 9, 10, 11, 12] rfl) $$ [F_closed_rsS_1 P466]
  · isplitl [F_closed_rsS_1] <;> iassumption
  ihave F_got_rsS_1 := (bigSepL_snoc (fun k : Fin 32 => accSrcAt m c 1 k) [1, 2, 3, 4, 5, 6, 7, 8, 9, 10, 11, 12] 13 [1, 2, 3, 4, 5, 6, 7, 8, 9, 10, 11, 12, 13] rfl) $$ [F_got_rsS_1 P467]
  · isplitl [F_got_rsS_1] <;> iassumption
  ihave F_closed_rsS_1 := (bigSepL_snoc (fun k : Fin 32 => closedAt m K c 1 k rsS) [1, 2, 3, 4, 5, 6, 7, 8, 9, 10, 11, 12] 13 [1, 2, 3, 4, 5, 6, 7, 8, 9, 10, 11, 12, 13] rfl) $$ [F_closed_rsS_1 P468]
  · isplitl [F_closed_rsS_1] <;> iassumption
  -- k0_part104
  icases (bigSepL_pop (fun k : Fin 32 => recvRes m K rsS c 1 k) 14 15 [16, 17, 18, 19, 20, 21, 22, 23, 24, 25, 26, 27, 28, 29, 30, 31]) $$ F_recvRes_rsS_1 with ⟨T469, F_recvRes_rsS_1⟩
  icases (bigSepL_pop (fun k : Fin 32 => recvRes m K rsS c 1 k) 15 16 [17, 18, 19, 20, 21, 22, 23, 24, 25, 26, 27, 28, 29, 30, 31]) $$ F_recvRes_rsS_1 with ⟨T470, F_recvRes_rsS_1⟩
  icases (bigSepL_pop (fun k : Fin 32 => recvRes m K rsS c 1 k) 16 17 [18, 19, 20, 21, 22, 23, 24, 25, 26, 27, 28, 29, 30, 31]) $$ F_recvRes_rsS_1 with ⟨T471, F_recvRes_rsS_1⟩
  icases (bigSepL_pop (fun k : Fin 32 => recvRes m K rsS c 1 k) 17 18 [19, 20, 21, 22, 23, 24, 25, 26, 27, 28, 29, 30, 31]) $$ F_recvRes_rsS_1 with ⟨T472, F_recvRes_rsS_1⟩
  rw [wp_bind]
  iapply (part104_spec' m K c (insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))
  isplitl [T469]
  · iexact T469
  isplitl [T470]
  · iexact T470
  isplitl [T471]
  · iexact T471
  isplitl [T472]
  · iexact T472
  isplitl []
  · iexact Hlev
  isplitl [H_owes]
  · iexact H_owes
  iintro %r ⟨P473, P474, P475, P476, P477, P478, P479, P480, H_owes⟩
  try dsimp only
  ihave F_got_rsS_1 := (bigSepL_snoc (fun k : Fin 32 => accSrcAt m c 1 k) [1, 2, 3, 4, 5, 6, 7, 8, 9, 10, 11, 12, 13] 14 [1, 2, 3, 4, 5, 6, 7, 8, 9, 10, 11, 12, 13, 14] rfl) $$ [F_got_rsS_1 P473]
  · isplitl [F_got_rsS_1] <;> iassumption
  ihave F_closed_rsS_1 := (bigSepL_snoc (fun k : Fin 32 => closedAt m K c 1 k rsS) [1, 2, 3, 4, 5, 6, 7, 8, 9, 10, 11, 12, 13] 14 [1, 2, 3, 4, 5, 6, 7, 8, 9, 10, 11, 12, 13, 14] rfl) $$ [F_closed_rsS_1 P474]
  · isplitl [F_closed_rsS_1] <;> iassumption
  ihave F_got_rsS_1 := (bigSepL_snoc (fun k : Fin 32 => accSrcAt m c 1 k) [1, 2, 3, 4, 5, 6, 7, 8, 9, 10, 11, 12, 13, 14] 15 [1, 2, 3, 4, 5, 6, 7, 8, 9, 10, 11, 12, 13, 14, 15] rfl) $$ [F_got_rsS_1 P475]
  · isplitl [F_got_rsS_1] <;> iassumption
  ihave F_closed_rsS_1 := (bigSepL_snoc (fun k : Fin 32 => closedAt m K c 1 k rsS) [1, 2, 3, 4, 5, 6, 7, 8, 9, 10, 11, 12, 13, 14] 15 [1, 2, 3, 4, 5, 6, 7, 8, 9, 10, 11, 12, 13, 14, 15] rfl) $$ [F_closed_rsS_1 P476]
  · isplitl [F_closed_rsS_1] <;> iassumption
  ihave F_got_rsS_1 := (bigSepL_snoc (fun k : Fin 32 => accSrcAt m c 1 k) [1, 2, 3, 4, 5, 6, 7, 8, 9, 10, 11, 12, 13, 14, 15] 16 [1, 2, 3, 4, 5, 6, 7, 8, 9, 10, 11, 12, 13, 14, 15, 16] rfl) $$ [F_got_rsS_1 P477]
  · isplitl [F_got_rsS_1] <;> iassumption
  ihave F_closed_rsS_1 := (bigSepL_snoc (fun k : Fin 32 => closedAt m K c 1 k rsS) [1, 2, 3, 4, 5, 6, 7, 8, 9, 10, 11, 12, 13, 14, 15] 16 [1, 2, 3, 4, 5, 6, 7, 8, 9, 10, 11, 12, 13, 14, 15, 16] rfl) $$ [F_closed_rsS_1 P478]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16] 17 [1, 2, 3, 4, 5, 6, 7, 8, 9, 10, 11, 12, 13, 14, 15, 16, 17] rfl) $$ [F_got_rsS_1 P479]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16] 17 [1, 2, 3, 4, 5, 6, 7, 8, 9, 10, 11, 12, 13, 14, 15, 16, 17] rfl) $$ [F_closed_rsS_1 P480]
  · isplitl [F_closed_rsS_1] <;> iassumption
  -- k0_part105
  icases (bigSepL_pop (fun k : Fin 32 => recvRes m K rsS c 1 k) 18 19 [20, 21, 22, 23, 24, 25, 26, 27, 28, 29, 30, 31]) $$ F_recvRes_rsS_1 with ⟨T481, F_recvRes_rsS_1⟩
  icases (bigSepL_pop (fun k : Fin 32 => recvRes m K rsS c 1 k) 19 20 [21, 22, 23, 24, 25, 26, 27, 28, 29, 30, 31]) $$ F_recvRes_rsS_1 with ⟨T482, F_recvRes_rsS_1⟩
  icases (bigSepL_pop (fun k : Fin 32 => recvRes m K rsS c 1 k) 20 21 [22, 23, 24, 25, 26, 27, 28, 29, 30, 31]) $$ F_recvRes_rsS_1 with ⟨T483, F_recvRes_rsS_1⟩
  icases (bigSepL_pop (fun k : Fin 32 => recvRes m K rsS c 1 k) 21 22 [23, 24, 25, 26, 27, 28, 29, 30, 31]) $$ F_recvRes_rsS_1 with ⟨T484, F_recvRes_rsS_1⟩
  rw [wp_bind]
  iapply (part105_spec' m K c (insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))
  isplitl [T481]
  · iexact T481
  isplitl [T482]
  · iexact T482
  isplitl [T483]
  · iexact T483
  isplitl [T484]
  · iexact T484
  isplitl []
  · iexact Hlev
  isplitl [H_owes]
  · iexact H_owes
  iintro %r ⟨P485, P486, P487, P488, P489, P490, P491, P492, H_owes⟩
  try dsimp only
  ihave F_got_rsS_1 := (bigSepL_snoc (fun k : Fin 32 => accSrcAt m c 1 k) [1, 2, 3, 4, 5, 6, 7, 8, 9, 10, 11, 12, 13, 14, 15, 16, 17] 18 [1, 2, 3, 4, 5, 6, 7, 8, 9, 10, 11, 12, 13, 14, 15, 16, 17, 18] rfl) $$ [F_got_rsS_1 P485]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17] 18 [1, 2, 3, 4, 5, 6, 7, 8, 9, 10, 11, 12, 13, 14, 15, 16, 17, 18] rfl) $$ [F_closed_rsS_1 P486]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_got_rsS_1 P487]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_closed_rsS_1 P488]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_got_rsS_1 P489]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_closed_rsS_1 P490]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_got_rsS_1 P491]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_closed_rsS_1 P492]
  · isplitl [F_closed_rsS_1] <;> iassumption
  -- k0_part106
  icases (bigSepL_pop (fun k : Fin 32 => recvRes m K rsS c 1 k) 22 23 [24, 25, 26, 27, 28, 29, 30, 31]) $$ F_recvRes_rsS_1 with ⟨T493, F_recvRes_rsS_1⟩
  icases (bigSepL_pop (fun k : Fin 32 => recvRes m K rsS c 1 k) 23 24 [25, 26, 27, 28, 29, 30, 31]) $$ F_recvRes_rsS_1 with ⟨T494, F_recvRes_rsS_1⟩
  icases (bigSepL_pop (fun k : Fin 32 => recvRes m K rsS c 1 k) 24 25 [26, 27, 28, 29, 30, 31]) $$ F_recvRes_rsS_1 with ⟨T495, F_recvRes_rsS_1⟩
  rw [wp_bind]
  iapply (part106_spec' m K c (insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))))))))))))
  isplitl [T493]
  · iexact T493
  isplitl [T494]
  · iexact T494
  isplitl [T495]
  · iexact T495
  isplitl []
  · iexact Hlev
  isplitl [H_owes]
  · iexact H_owes
  iintro %r ⟨P496, P497, P498, P499, P500, P501, H_owes⟩
  try dsimp only
  ihave F_got_rsS_1 := (bigSepL_snoc (fun k : Fin 32 => accSrcAt m c 1 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_got_rsS_1 P496]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_closed_rsS_1 P497]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_got_rsS_1 P498]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_closed_rsS_1 P499]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_got_rsS_1 P500]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_closed_rsS_1 P501]
  · isplitl [F_closed_rsS_1] <;> iassumption
  -- k0_part107
  icases (bigSepL_pop (fun k : Fin 32 => recvRes m K rsS c 1 k) 25 26 [27, 28, 29, 30, 31]) $$ F_recvRes_rsS_1 with ⟨T502, F_recvRes_rsS_1⟩
  icases (bigSepL_pop (fun k : Fin 32 => recvRes m K rsS c 1 k) 26 27 [28, 29, 30, 31]) $$ F_recvRes_rsS_1 with ⟨T503, F_recvRes_rsS_1⟩
  icases (bigSepL_pop (fun k : Fin 32 => recvRes m K rsS c 1 k) 27 28 [29, 30, 31]) $$ F_recvRes_rsS_1 with ⟨T504, F_recvRes_rsS_1⟩
  icases (bigSepL_pop (fun k : Fin 32 => recvRes m K rsS c 1 k) 28 29 [30, 31]) $$ F_recvRes_rsS_1 with ⟨T505, F_recvRes_rsS_1⟩
  rw [wp_bind]
  iapply (part107_spec' m K c (insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))))))))))))))))
  isplitl [T502]
  · iexact T502
  isplitl [T503]
  · iexact T503
  isplitl [T504]
  · iexact T504
  isplitl [T505]
  · iexact T505
  isplitl []
  · iexact Hlev
  isplitl [H_owes]
  · iexact H_owes
  iintro %r ⟨P506, P507, P508, P509, P510, P511, P512, P513, H_owes⟩
  try dsimp only
  ihave F_got_rsS_1 := (bigSepL_snoc (fun k : Fin 32 => accSrcAt m c 1 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_got_rsS_1 P506]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_closed_rsS_1 P507]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_got_rsS_1 P508]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_closed_rsS_1 P509]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_got_rsS_1 P510]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_closed_rsS_1 P511]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_got_rsS_1 P512]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_closed_rsS_1 P513]
  · isplitl [F_closed_rsS_1] <;> iassumption
  -- k0_part108
  icases (bigSepL_pop (fun k : Fin 32 => recvRes m K rsS c 1 k) 29 30 [31]) $$ F_recvRes_rsS_1 with ⟨T514, F_recvRes_rsS_1⟩
  icases (bigSepL_pop (fun k : Fin 32 => recvRes m K rsS c 1 k) 30 31 []) $$ F_recvRes_rsS_1 with ⟨T515, F_recvRes_rsS_1⟩
  ihave T516 := (bigSepL_one (fun k : Fin 32 => recvRes m K rsS c 1 k) 31) $$ F_recvRes_rsS_1
  rw [wp_bind]
  iapply (part108_spec' m K c _ (insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))))))))))))))))
  isplitl [T514]
  · iexact T514
  isplitl [T515]
  · iexact T515
  isplitl [T516]
  · iexact T516
  isplitl []
  · iexact Hlev
  isplitl [H_owes]
  · iexact H_owes
  iintro %r ⟨P517, P518, P519, P520, P521, P522, H_owes⟩
  try dsimp only
  ihave F_got_rsS_1 := (bigSepL_snoc (fun k : Fin 32 => accSrcAt m c 1 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_got_rsS_1 P517]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_closed_rsS_1 P518]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_got_rsS_1 P519]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_closed_rsS_1 P520]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_got_rsS_1 P521]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_closed_rsS_1 P522]
  · isplitl [F_closed_rsS_1] <;> iassumption
  -- k0_part109
  icases (bigSepL_pop (fun k : Fin 32 => recvRes m K agR c 0 k) 1 2 [3, 4, 5, 6, 7, 8, 9, 10, 11, 12, 13, 14, 15, 16, 17, 18, 19, 20, 21, 22, 23, 24, 25, 26, 27, 28, 29, 30, 31]) $$ F_recvRes_agR_0 with ⟨T523, F_recvRes_agR_0⟩
  icases (bigSepL_pop (fun k : Fin 32 => recvRes m K agR c 0 k) 2 3 [4, 5, 6, 7, 8, 9, 10, 11, 12, 13, 14, 15, 16, 17, 18, 19, 20, 21, 22, 23, 24, 25, 26, 27, 28, 29, 30, 31]) $$ F_recvRes_agR_0 with ⟨T524, F_recvRes_agR_0⟩
  icases (bigSepL_pop (fun k : Fin 32 => recvRes m K agR c 0 k) 3 4 [5, 6, 7, 8, 9, 10, 11, 12, 13, 14, 15, 16, 17, 18, 19, 20, 21, 22, 23, 24, 25, 26, 27, 28, 29, 30, 31]) $$ F_recvRes_agR_0 with ⟨T525, F_recvRes_agR_0⟩
  rw [wp_bind]
  iapply (part109_spec' m K c _ (insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))))))))))))))))))))
  isplitl [T523]
  · iexact T523
  isplitl [T524]
  · iexact T524
  isplitl [T525]
  · iexact T525
  isplitl []
  · iexact Hlev
  isplitl [H_owes]
  · iexact H_owes
  iintro %r ⟨P526, P527, P528, P529, P530, P531, H_owes⟩
  obtain ⟨v2718, c32_i32_3491⟩ := r
  try dsimp only
  ihave F_got_agR_0 := (bigSepL_wrap (fun k : Fin 32 => gotAgR m c 0 k) 1) $$ P526
  ihave F_closed_agR_0 := (bigSepL_wrap (fun k : Fin 32 => closedAt m K c 0 k agR) 1) $$ P527
  ihave F_got_agR_0 := (bigSepL_snoc (fun k : Fin 32 => gotAgR m c 0 k) [1] 2 [1, 2] rfl) $$ [F_got_agR_0 P528]
  · isplitl [F_got_agR_0] <;> iassumption
  ihave F_closed_agR_0 := (bigSepL_snoc (fun k : Fin 32 => closedAt m K c 0 k agR) [1] 2 [1, 2] rfl) $$ [F_closed_agR_0 P529]
  · isplitl [F_closed_agR_0] <;> iassumption
  ihave F_got_agR_0 := (bigSepL_snoc (fun k : Fin 32 => gotAgR m c 0 k) [1, 2] 3 [1, 2, 3] rfl) $$ [F_got_agR_0 P530]
  · isplitl [F_got_agR_0] <;> iassumption
  ihave F_closed_agR_0 := (bigSepL_snoc (fun k : Fin 32 => closedAt m K c 0 k agR) [1, 2] 3 [1, 2, 3] rfl) $$ [F_closed_agR_0 P531]
  · isplitl [F_closed_agR_0] <;> iassumption
  -- k0_part110
  icases (bigSepL_pop (fun k : Fin 32 => recvRes m K agR c 0 k) 4 5 [6, 7, 8, 9, 10, 11, 12, 13, 14, 15, 16, 17, 18, 19, 20, 21, 22, 23, 24, 25, 26, 27, 28, 29, 30, 31]) $$ F_recvRes_agR_0 with ⟨T532, F_recvRes_agR_0⟩
  icases (bigSepL_pop (fun k : Fin 32 => recvRes m K agR c 0 k) 5 6 [7, 8, 9, 10, 11, 12, 13, 14, 15, 16, 17, 18, 19, 20, 21, 22, 23, 24, 25, 26, 27, 28, 29, 30, 31]) $$ F_recvRes_agR_0 with ⟨T533, F_recvRes_agR_0⟩
  rw [wp_bind]
  iapply (part110_spec' m K c _ _ _ (insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))))))))))))))))))))))))
  isplitl [T532]
  · iexact T532
  isplitl [T533]
  · iexact T533
  isplitl []
  · iexact Hlev
  isplitl [H_owes]
  · iexact H_owes
  iintro %r ⟨P534, P535, P536, P537, H_owes⟩
  obtain ⟨v2741, c1_i32_3524⟩ := r
  try dsimp only
  ihave F_got_agR_0 := (bigSepL_snoc (fun k : Fin 32 => gotAgR m c 0 k) [1, 2, 3] 4 [1, 2, 3, 4] rfl) $$ [F_got_agR_0 P534]
  · isplitl [F_got_agR_0] <;> iassumption
  ihave F_closed_agR_0 := (bigSepL_snoc (fun k : Fin 32 => closedAt m K c 0 k agR) [1, 2, 3] 4 [1, 2, 3, 4] rfl) $$ [F_closed_agR_0 P535]
  · isplitl [F_closed_agR_0] <;> iassumption
  ihave F_got_agR_0 := (bigSepL_snoc (fun k : Fin 32 => gotAgR m c 0 k) [1, 2, 3, 4] 5 [1, 2, 3, 4, 5] rfl) $$ [F_got_agR_0 P536]
  · isplitl [F_got_agR_0] <;> iassumption
  ihave F_closed_agR_0 := (bigSepL_snoc (fun k : Fin 32 => closedAt m K c 0 k agR) [1, 2, 3, 4] 5 [1, 2, 3, 4, 5] rfl) $$ [F_closed_agR_0 P537]
  · isplitl [F_closed_agR_0] <;> iassumption
  -- k0_part111
  icases (bigSepL_pop (fun k : Fin 32 => recvRes m K agR c 0 k) 6 7 [8, 9, 10, 11, 12, 13, 14, 15, 16, 17, 18, 19, 20, 21, 22, 23, 24, 25, 26, 27, 28, 29, 30, 31]) $$ F_recvRes_agR_0 with ⟨T538, F_recvRes_agR_0⟩
  icases (bigSepL_pop (fun k : Fin 32 => recvRes m K agR c 0 k) 7 8 [9, 10, 11, 12, 13, 14, 15, 16, 17, 18, 19, 20, 21, 22, 23, 24, 25, 26, 27, 28, 29, 30, 31]) $$ F_recvRes_agR_0 with ⟨T539, F_recvRes_agR_0⟩
  icases (bigSepL_pop (fun k : Fin 32 => recvRes m K agR c 0 k) 8 9 [10, 11, 12, 13, 14, 15, 16, 17, 18, 19, 20, 21, 22, 23, 24, 25, 26, 27, 28, 29, 30, 31]) $$ F_recvRes_agR_0 with ⟨T540, F_recvRes_agR_0⟩
  rw [wp_bind]
  iapply (part111_spec' m K c _ _ _ (insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))))))))))))))))))))))))))))))))
  isplitl [T538]
  · iexact T538
  isplitl [T539]
  · iexact T539
  isplitl [T540]
  · iexact T540
  isplitl []
  · iexact Hlev
  isplitl [H_owes]
  · iexact H_owes
  iintro %r ⟨P541, P542, P543, P544, P545, P546, H_owes⟩
  try dsimp only
  ihave F_got_agR_0 := (bigSepL_snoc (fun k : Fin 32 => gotAgR m c 0 k) [1, 2, 3, 4, 5] 6 [1, 2, 3, 4, 5, 6] rfl) $$ [F_got_agR_0 P541]
  · isplitl [F_got_agR_0] <;> iassumption
  ihave F_closed_agR_0 := (bigSepL_snoc (fun k : Fin 32 => closedAt m K c 0 k agR) [1, 2, 3, 4, 5] 6 [1, 2, 3, 4, 5, 6] rfl) $$ [F_closed_agR_0 P542]
  · isplitl [F_closed_agR_0] <;> iassumption
  ihave F_got_agR_0 := (bigSepL_snoc (fun k : Fin 32 => gotAgR m c 0 k) [1, 2, 3, 4, 5, 6] 7 [1, 2, 3, 4, 5, 6, 7] rfl) $$ [F_got_agR_0 P543]
  · isplitl [F_got_agR_0] <;> iassumption
  ihave F_closed_agR_0 := (bigSepL_snoc (fun k : Fin 32 => closedAt m K c 0 k agR) [1, 2, 3, 4, 5, 6] 7 [1, 2, 3, 4, 5, 6, 7] rfl) $$ [F_closed_agR_0 P544]
  · isplitl [F_closed_agR_0] <;> iassumption
  ihave F_got_agR_0 := (bigSepL_snoc (fun k : Fin 32 => gotAgR m c 0 k) [1, 2, 3, 4, 5, 6, 7] 8 [1, 2, 3, 4, 5, 6, 7, 8] rfl) $$ [F_got_agR_0 P545]
  · isplitl [F_got_agR_0] <;> iassumption
  ihave F_closed_agR_0 := (bigSepL_snoc (fun k : Fin 32 => closedAt m K c 0 k agR) [1, 2, 3, 4, 5, 6, 7] 8 [1, 2, 3, 4, 5, 6, 7, 8] rfl) $$ [F_closed_agR_0 P546]
  · isplitl [F_closed_agR_0] <;> iassumption
  -- k0_part112
  icases (bigSepL_pop (fun k : Fin 32 => recvRes m K agR c 0 k) 9 10 [11, 12, 13, 14, 15, 16, 17, 18, 19, 20, 21, 22, 23, 24, 25, 26, 27, 28, 29, 30, 31]) $$ F_recvRes_agR_0 with ⟨T547, F_recvRes_agR_0⟩
  icases (bigSepL_pop (fun k : Fin 32 => recvRes m K agR c 0 k) 10 11 [12, 13, 14, 15, 16, 17, 18, 19, 20, 21, 22, 23, 24, 25, 26, 27, 28, 29, 30, 31]) $$ F_recvRes_agR_0 with ⟨T548, F_recvRes_agR_0⟩
  rw [wp_bind]
  iapply (part112_spec' m K c _ (insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))))))))))))))))))))))))))))))))))))
  isplitl [T547]
  · iexact T547
  isplitl [T548]
  · iexact T548
  isplitl []
  · iexact Hlev
  isplitl [H_owes]
  · iexact H_owes
  iintro %v2796 ⟨P549, P550, P551, P552, H_owes⟩
  try dsimp only
  ihave F_got_agR_0 := (bigSepL_snoc (fun k : Fin 32 => gotAgR m c 0 k) [1, 2, 3, 4, 5, 6, 7, 8] 9 [1, 2, 3, 4, 5, 6, 7, 8, 9] rfl) $$ [F_got_agR_0 P549]
  · isplitl [F_got_agR_0] <;> iassumption
  ihave F_closed_agR_0 := (bigSepL_snoc (fun k : Fin 32 => closedAt m K c 0 k agR) [1, 2, 3, 4, 5, 6, 7, 8] 9 [1, 2, 3, 4, 5, 6, 7, 8, 9] rfl) $$ [F_closed_agR_0 P550]
  · isplitl [F_closed_agR_0] <;> iassumption
  ihave F_got_agR_0 := (bigSepL_snoc (fun k : Fin 32 => gotAgR m c 0 k) [1, 2, 3, 4, 5, 6, 7, 8, 9] 10 [1, 2, 3, 4, 5, 6, 7, 8, 9, 10] rfl) $$ [F_got_agR_0 P551]
  · isplitl [F_got_agR_0] <;> iassumption
  ihave F_closed_agR_0 := (bigSepL_snoc (fun k : Fin 32 => closedAt m K c 0 k agR) [1, 2, 3, 4, 5, 6, 7, 8, 9] 10 [1, 2, 3, 4, 5, 6, 7, 8, 9, 10] rfl) $$ [F_closed_agR_0 P552]
  · isplitl [F_closed_agR_0] <;> iassumption
  -- k0_part113
  icases (bigSepL_pop (fun k : Fin 32 => recvRes m K agR c 0 k) 11 12 [13, 14, 15, 16, 17, 18, 19, 20, 21, 22, 23, 24, 25, 26, 27, 28, 29, 30, 31]) $$ F_recvRes_agR_0 with ⟨T553, F_recvRes_agR_0⟩
  icases (bigSepL_pop (fun k : Fin 32 => recvRes m K agR c 0 k) 12 13 [14, 15, 16, 17, 18, 19, 20, 21, 22, 23, 24, 25, 26, 27, 28, 29, 30, 31]) $$ F_recvRes_agR_0 with ⟨T554, F_recvRes_agR_0⟩
  rw [wp_bind]
  iapply (part113_spec' m K c _ _ (insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))))))))))))))))))))))))))))))))))
  isplitl [T553]
  · iexact T553
  isplitl [T554]
  · iexact T554
  isplitl []
  · iexact Hlev
  isplitl [H_owes]
  · iexact H_owes
  iintro %r ⟨P555, P556, P557, P558, H_owes⟩
  try dsimp only
  ihave F_got_agR_0 := (bigSepL_snoc (fun k : Fin 32 => gotAgR m c 0 k) [1, 2, 3, 4, 5, 6, 7, 8, 9, 10] 11 [1, 2, 3, 4, 5, 6, 7, 8, 9, 10, 11] rfl) $$ [F_got_agR_0 P555]
  · isplitl [F_got_agR_0] <;> iassumption
  ihave F_closed_agR_0 := (bigSepL_snoc (fun k : Fin 32 => closedAt m K c 0 k agR) [1, 2, 3, 4, 5, 6, 7, 8, 9, 10] 11 [1, 2, 3, 4, 5, 6, 7, 8, 9, 10, 11] rfl) $$ [F_closed_agR_0 P556]
  · isplitl [F_closed_agR_0] <;> iassumption
  ihave F_got_agR_0 := (bigSepL_snoc (fun k : Fin 32 => gotAgR m c 0 k) [1, 2, 3, 4, 5, 6, 7, 8, 9, 10, 11] 12 [1, 2, 3, 4, 5, 6, 7, 8, 9, 10, 11, 12] rfl) $$ [F_got_agR_0 P557]
  · isplitl [F_got_agR_0] <;> iassumption
  ihave F_closed_agR_0 := (bigSepL_snoc (fun k : Fin 32 => closedAt m K c 0 k agR) [1, 2, 3, 4, 5, 6, 7, 8, 9, 10, 11] 12 [1, 2, 3, 4, 5, 6, 7, 8, 9, 10, 11, 12] rfl) $$ [F_closed_agR_0 P558]
  · isplitl [F_closed_agR_0] <;> iassumption
  -- k0_part114
  icases (bigSepL_pop (fun k : Fin 32 => recvRes m K agR c 0 k) 13 14 [15, 16, 17, 18, 19, 20, 21, 22, 23, 24, 25, 26, 27, 28, 29, 30, 31]) $$ F_recvRes_agR_0 with ⟨T559, F_recvRes_agR_0⟩
  icases (bigSepL_pop (fun k : Fin 32 => recvRes m K agR c 0 k) 14 15 [16, 17, 18, 19, 20, 21, 22, 23, 24, 25, 26, 27, 28, 29, 30, 31]) $$ F_recvRes_agR_0 with ⟨T560, F_recvRes_agR_0⟩
  icases (bigSepL_pop (fun k : Fin 32 => recvRes m K agR c 0 k) 15 16 [17, 18, 19, 20, 21, 22, 23, 24, 25, 26, 27, 28, 29, 30, 31]) $$ F_recvRes_agR_0 with ⟨T561, F_recvRes_agR_0⟩
  rw [wp_bind]
  iapply (part114_spec' m K c _ (insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))))))))))))))))))))))))))))))))))))))))))
  isplitl [T559]
  · iexact T559
  isplitl [T560]
  · iexact T560
  isplitl [T561]
  · iexact T561
  isplitl []
  · iexact Hlev
  isplitl [H_owes]
  · iexact H_owes
  iintro %r ⟨P562, P563, P564, P565, P566, P567, H_owes⟩
  obtain ⟨v2850, c32_i32_3647⟩ := r
  try dsimp only
  ihave F_got_agR_0 := (bigSepL_snoc (fun k : Fin 32 => gotAgR m c 0 k) [1, 2, 3, 4, 5, 6, 7, 8, 9, 10, 11, 12] 13 [1, 2, 3, 4, 5, 6, 7, 8, 9, 10, 11, 12, 13] rfl) $$ [F_got_agR_0 P562]
  · isplitl [F_got_agR_0] <;> iassumption
  ihave F_closed_agR_0 := (bigSepL_snoc (fun k : Fin 32 => closedAt m K c 0 k agR) [1, 2, 3, 4, 5, 6, 7, 8, 9, 10, 11, 12] 13 [1, 2, 3, 4, 5, 6, 7, 8, 9, 10, 11, 12, 13] rfl) $$ [F_closed_agR_0 P563]
  · isplitl [F_closed_agR_0] <;> iassumption
  ihave F_got_agR_0 := (bigSepL_snoc (fun k : Fin 32 => gotAgR m c 0 k) [1, 2, 3, 4, 5, 6, 7, 8, 9, 10, 11, 12, 13] 14 [1, 2, 3, 4, 5, 6, 7, 8, 9, 10, 11, 12, 13, 14] rfl) $$ [F_got_agR_0 P564]
  · isplitl [F_got_agR_0] <;> iassumption
  ihave F_closed_agR_0 := (bigSepL_snoc (fun k : Fin 32 => closedAt m K c 0 k agR) [1, 2, 3, 4, 5, 6, 7, 8, 9, 10, 11, 12, 13] 14 [1, 2, 3, 4, 5, 6, 7, 8, 9, 10, 11, 12, 13, 14] rfl) $$ [F_closed_agR_0 P565]
  · isplitl [F_closed_agR_0] <;> iassumption
  ihave F_got_agR_0 := (bigSepL_snoc (fun k : Fin 32 => gotAgR m c 0 k) [1, 2, 3, 4, 5, 6, 7, 8, 9, 10, 11, 12, 13, 14] 15 [1, 2, 3, 4, 5, 6, 7, 8, 9, 10, 11, 12, 13, 14, 15] rfl) $$ [F_got_agR_0 P566]
  · isplitl [F_got_agR_0] <;> iassumption
  ihave F_closed_agR_0 := (bigSepL_snoc (fun k : Fin 32 => closedAt m K c 0 k agR) [1, 2, 3, 4, 5, 6, 7, 8, 9, 10, 11, 12, 13, 14] 15 [1, 2, 3, 4, 5, 6, 7, 8, 9, 10, 11, 12, 13, 14, 15] rfl) $$ [F_closed_agR_0 P567]
  · isplitl [F_closed_agR_0] <;> iassumption
  -- k0_part115
  icases (bigSepL_pop (fun k : Fin 32 => recvRes m K agR c 0 k) 16 17 [18, 19, 20, 21, 22, 23, 24, 25, 26, 27, 28, 29, 30, 31]) $$ F_recvRes_agR_0 with ⟨T568, F_recvRes_agR_0⟩
  icases (bigSepL_pop (fun k : Fin 32 => recvRes m K agR c 0 k) 17 18 [19, 20, 21, 22, 23, 24, 25, 26, 27, 28, 29, 30, 31]) $$ F_recvRes_agR_0 with ⟨T569, F_recvRes_agR_0⟩
  rw [wp_bind]
  iapply (part115_spec' m K c _ _ _ (insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))))))))))))))))))))))))))))))))))))))))))))))
  isplitl [T568]
  · iexact T568
  isplitl [T569]
  · iexact T569
  isplitl []
  · iexact Hlev
  isplitl [H_owes]
  · iexact H_owes
  iintro %r ⟨P570, P571, P572, P573, H_owes⟩
  obtain ⟨v2873, c1_i32_3680⟩ := r
  try dsimp only
  ihave F_got_agR_0 := (bigSepL_snoc (fun k : Fin 32 => gotAgR m c 0 k) [1, 2, 3, 4, 5, 6, 7, 8, 9, 10, 11, 12, 13, 14, 15] 16 [1, 2, 3, 4, 5, 6, 7, 8, 9, 10, 11, 12, 13, 14, 15, 16] rfl) $$ [F_got_agR_0 P570]
  · isplitl [F_got_agR_0] <;> iassumption
  ihave F_closed_agR_0 := (bigSepL_snoc (fun k : Fin 32 => closedAt m K c 0 k agR) [1, 2, 3, 4, 5, 6, 7, 8, 9, 10, 11, 12, 13, 14, 15] 16 [1, 2, 3, 4, 5, 6, 7, 8, 9, 10, 11, 12, 13, 14, 15, 16] rfl) $$ [F_closed_agR_0 P571]
  · isplitl [F_closed_agR_0] <;> iassumption
  ihave F_got_agR_0 := (bigSepL_snoc (fun k : Fin 32 => gotAgR m c 0 k) [1, 2, 3, 4, 5, 6, 7, 8, 9, 10, 11, 12, 13, 14, 15, 16] 17 [1, 2, 3, 4, 5, 6, 7, 8, 9, 10, 11, 12, 13, 14, 15, 16, 17] rfl) $$ [F_got_agR_0 P572]
  · isplitl [F_got_agR_0] <;> iassumption
  ihave F_closed_agR_0 := (bigSepL_snoc (fun k : Fin 32 => closedAt m K c 0 k agR) [1, 2, 3, 4, 5, 6, 7, 8, 9, 10, 11, 12, 13, 14, 15, 16] 17 [1, 2, 3, 4, 5, 6, 7, 8, 9, 10, 11, 12, 13, 14, 15, 16, 17] rfl) $$ [F_closed_agR_0 P573]
  · isplitl [F_closed_agR_0] <;> iassumption
  -- k0_part116
  icases (bigSepL_pop (fun k : Fin 32 => recvRes m K agR c 0 k) 18 19 [20, 21, 22, 23, 24, 25, 26, 27, 28, 29, 30, 31]) $$ F_recvRes_agR_0 with ⟨T574, F_recvRes_agR_0⟩
  icases (bigSepL_pop (fun k : Fin 32 => recvRes m K agR c 0 k) 19 20 [21, 22, 23, 24, 25, 26, 27, 28, 29, 30, 31]) $$ F_recvRes_agR_0 with ⟨T575, F_recvRes_agR_0⟩
  icases (bigSepL_pop (fun k : Fin 32 => recvRes m K agR c 0 k) 20 21 [22, 23, 24, 25, 26, 27, 28, 29, 30, 31]) $$ F_recvRes_agR_0 with ⟨T576, F_recvRes_agR_0⟩
  rw [wp_bind]
  iapply (part116_spec' m K c _ _ _ (insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))))))))))))))))))))))))))))))))))))))))))))
  isplitl [T574]
  · iexact T574
  isplitl [T575]
  · iexact T575
  isplitl [T576]
  · iexact T576
  isplitl []
  · iexact Hlev
  isplitl [H_owes]
  · iexact H_owes
  iintro %r ⟨P577, P578, P579, P580, P581, P582, H_owes⟩
  try dsimp only
  ihave F_got_agR_0 := (bigSepL_snoc (fun k : Fin 32 => gotAgR m c 0 k) [1, 2, 3, 4, 5, 6, 7, 8, 9, 10, 11, 12, 13, 14, 15, 16, 17] 18 [1, 2, 3, 4, 5, 6, 7, 8, 9, 10, 11, 12, 13, 14, 15, 16, 17, 18] rfl) $$ [F_got_agR_0 P577]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17] 18 [1, 2, 3, 4, 5, 6, 7, 8, 9, 10, 11, 12, 13, 14, 15, 16, 17, 18] rfl) $$ [F_closed_agR_0 P578]
  · isplitl [F_closed_agR_0] <;> iassumption
  ihave F_got_agR_0 := (bigSepL_snoc (fun k : Fin 32 => gotAgR m c 0 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_got_agR_0 P579]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_closed_agR_0 P580]
  · isplitl [F_closed_agR_0] <;> iassumption
  ihave F_got_agR_0 := (bigSepL_snoc (fun k : Fin 32 => gotAgR m c 0 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_got_agR_0 P581]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_closed_agR_0 P582]
  · isplitl [F_closed_agR_0] <;> iassumption
  -- k0_part117
  icases (bigSepL_pop (fun k : Fin 32 => recvRes m K agR c 0 k) 21 22 [23, 24, 25, 26, 27, 28, 29, 30, 31]) $$ F_recvRes_agR_0 with ⟨T583, F_recvRes_agR_0⟩
  icases (bigSepL_pop (fun k : Fin 32 => recvRes m K agR c 0 k) 22 23 [24, 25, 26, 27, 28, 29, 30, 31]) $$ F_recvRes_agR_0 with ⟨T584, F_recvRes_agR_0⟩
  rw [wp_bind]
  iapply (part117_spec' m K c _ (insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))))))))))))))))))))))))))))))))))))))))))))))))
  isplitl [T583]
  · iexact T583
  isplitl [T584]
  · iexact T584
  isplitl []
  · iexact Hlev
  isplitl [H_owes]
  · iexact H_owes
  iintro %v2928 ⟨P585, P586, P587, P588, H_owes⟩
  try dsimp only
  ihave F_got_agR_0 := (bigSepL_snoc (fun k : Fin 32 => gotAgR m c 0 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_got_agR_0 P585]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_closed_agR_0 P586]
  · isplitl [F_closed_agR_0] <;> iassumption
  ihave F_got_agR_0 := (bigSepL_snoc (fun k : Fin 32 => gotAgR m c 0 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_got_agR_0 P587]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_closed_agR_0 P588]
  · isplitl [F_closed_agR_0] <;> iassumption
  -- k0_part118
  icases (bigSepL_pop (fun k : Fin 32 => recvRes m K agR c 0 k) 23 24 [25, 26, 27, 28, 29, 30, 31]) $$ F_recvRes_agR_0 with ⟨T589, F_recvRes_agR_0⟩
  icases (bigSepL_pop (fun k : Fin 32 => recvRes m K agR c 0 k) 24 25 [26, 27, 28, 29, 30, 31]) $$ F_recvRes_agR_0 with ⟨T590, F_recvRes_agR_0⟩
  rw [wp_bind]
  iapply (part118_spec' m K c _ _ (insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))))))))))))))))))))))))))))))))))))))))))))))))))))))))
  isplitl [T589]
  · iexact T589
  isplitl [T590]
  · iexact T590
  isplitl []
  · iexact Hlev
  isplitl [H_owes]
  · iexact H_owes
  iintro %r ⟨P591, P592, P593, P594, H_owes⟩
  try dsimp only
  ihave F_got_agR_0 := (bigSepL_snoc (fun k : Fin 32 => gotAgR m c 0 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_got_agR_0 P591]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_closed_agR_0 P592]
  · isplitl [F_closed_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_got_agR_0 P593]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_closed_agR_0 P594]
  · isplitl [F_closed_agR_0] <;> iassumption
  -- k0_part119
  icases (bigSepL_pop (fun k : Fin 32 => recvRes m K agR c 0 k) 25 26 [27, 28, 29, 30, 31]) $$ F_recvRes_agR_0 with ⟨T595, F_recvRes_agR_0⟩
  icases (bigSepL_pop (fun k : Fin 32 => recvRes m K agR c 0 k) 26 27 [28, 29, 30, 31]) $$ F_recvRes_agR_0 with ⟨T596, F_recvRes_agR_0⟩
  icases (bigSepL_pop (fun k : Fin 32 => recvRes m K agR c 0 k) 27 28 [29, 30, 31]) $$ F_recvRes_agR_0 with ⟨T597, F_recvRes_agR_0⟩
  rw [wp_bind]
  iapply (part119_spec' m K c _ (insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))))))))))))))))))))))))))))))))))))))))))))))))))))))
  isplitl [T595]
  · iexact T595
  isplitl [T596]
  · iexact T596
  isplitl [T597]
  · iexact T597
  isplitl []
  · iexact Hlev
  isplitl [H_owes]
  · iexact H_owes
  iintro %r ⟨P598, P599, P600, P601, P602, P603, H_owes⟩
  obtain ⟨v2982, c32_i32_3803⟩ := r
  try dsimp only
  ihave F_got_agR_0 := (bigSepL_snoc (fun k : Fin 32 => gotAgR m c 0 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_got_agR_0 P598]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_closed_agR_0 P599]
  · isplitl [F_closed_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_got_agR_0 P600]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_closed_agR_0 P601]
  · isplitl [F_closed_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_got_agR_0 P602]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_closed_agR_0 P603]
  · isplitl [F_closed_agR_0] <;> iassumption
  -- k0_part120
  icases (bigSepL_pop (fun k : Fin 32 => recvRes m K agR c 0 k) 28 29 [30, 31]) $$ F_recvRes_agR_0 with ⟨T604, F_recvRes_agR_0⟩
  icases (bigSepL_pop (fun k : Fin 32 => recvRes m K agR c 0 k) 29 30 [31]) $$ F_recvRes_agR_0 with ⟨T605, F_recvRes_agR_0⟩
  rw [wp_bind]
  iapply (part120_spec' m K c _ _ _ (insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))))))))))))))))))))))))))))))))))))))))))))))))))))))))))
  isplitl [T604]
  · iexact T604
  isplitl [T605]
  · iexact T605
  isplitl []
  · iexact Hlev
  isplitl [H_owes]
  · iexact H_owes
  iintro %r ⟨P606, P607, P608, P609, H_owes⟩
  obtain ⟨v3005, c1_i32_3836⟩ := r
  try dsimp only
  ihave F_got_agR_0 := (bigSepL_snoc (fun k : Fin 32 => gotAgR m c 0 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_got_agR_0 P606]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_closed_agR_0 P607]
  · isplitl [F_closed_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_got_agR_0 P608]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_closed_agR_0 P609]
  · isplitl [F_closed_agR_0] <;> iassumption
  rw [wp_pure]
  imodintro
  iapply Hk
  isplitl [H_owes]
  · iexact H_owes
  isplitl [F_recvRes_agS_0]
  · iexact F_recvRes_agS_0
  isplitl [F_got_rsR_1]
  · iexact F_got_rsR_1
  isplitl [F_closed_rsR_1]
  · iexact F_closed_rsR_1
  isplitl [F_outShare0_1]
  · iexact F_outShare0_1
  isplitl [F_recvRes_agS_1]
  · iexact F_recvRes_agS_1
  isplitl [F_got_rsS_0]
  · iexact F_got_rsS_0
  isplitl [F_closed_rsS_0]
  · iexact F_closed_rsS_0
  isplitl [F_got_rsS_1]
  · iexact F_got_rsS_1
  isplitl [F_closed_rsS_1]
  · iexact F_closed_rsS_1
  isplitl [F_recvRes_agR_0]
  · iexact F_recvRes_agR_0
  isplitl [F_got_agR_0]
  · iexact F_got_agR_0
  iexact F_closed_agR_0

/-! ## The body -/

attribute [local sl_rounds] duties_dma amount_dma expect_dma pay_agS in
set_option maxRecDepth 200000 in
set_option maxHeartbeats 8000000 in
/-- The body on device c, from its launch state to Φ₁: the two grouping parts, the 26 parts after them and the last wait, each by
    its own statement, the resources handed from one to the next by family. -/
theorem sound_body : SoundBody (F := F) m := by
  intro K c f2 f3 fo fb W Kt
  unfold ghost
  rw [cc0_body_eq_skeleton]; unfold cc0_body_skel
  iintro ⟨⟨F_sigRes, F_barRes, F_copyRes_rsS_0, F_copyRes_rsS_1, F_recvRes_rsR_0, F_copyRes_agS_0, F_recvRes_rsR_1, F_copyRes_agS_1, F_recvRes_agR_0, F_recvRes_agR_1, F_idle, #Hlev⟩, H_owes, F_stgX, F_stgW, F_stg2, F_accWhole, H4, H5, Hk⟩
  icases (Entails.of_eq (out_cut (F := F) c fo)) $$ H4 with ⟨⟨O00, F_out_0⟩, ⟨O10, F_out_1⟩⟩
  icases (Entails.of_eq (buf_cut (F := F) c fb)) $$ H5 with ⟨⟨S00, F_slot_0⟩, ⟨S10, F_slot_1⟩⟩
  ihave F_out0_0 := (bigSepL_wrap (fun k : Fin 32 => outAt c 0 k fo) 0) $$ O00
  ihave F_out0_1 := (bigSepL_wrap (fun k : Fin 32 => outAt c 1 k fo) 0) $$ O10
  ihave F_slot0_0 := (bigSepL_wrap (fun k : Fin 32 => slotAt c 0 fb (opp k)) 0) $$ S00
  ihave F_slot0_1 := (bigSepL_wrap (fun k : Fin 32 => slotAt c 1 fb (opp k)) 0) $$ S10
  rw [ks_eq]
  -- k0_part147 (composite)
  rw [wp_bind]
  iapply (part147_spec m K c f3 fo fb (W))
  isplitl [H_owes]
  · iexact H_owes
  isplitl []
  · iexact Hlev
  isplitl [F_sigRes]
  · iexact F_sigRes
  isplitl [F_slot_0]
  · iexact F_slot_0
  isplitl [F_slot_1]
  · iexact F_slot_1
  isplitl [F_out_0]
  · iexact F_out_0
  isplitl [F_out_1]
  · iexact F_out_1
  isplitl [F_stgX]
  · iexact F_stgX
  isplitl [F_stgW]
  · iexact F_stgW
  isplitl [F_accWhole]
  · iexact F_accWhole
  isplitl [F_slot0_0]
  · iexact F_slot0_0
  isplitl [F_barRes]
  · iexact F_barRes
  isplitl [F_copyRes_rsS_0]
  · iexact F_copyRes_rsS_0
  isplitl [F_slot0_1]
  · iexact F_slot0_1
  isplitl [F_copyRes_rsS_1]
  · iexact F_copyRes_rsS_1
  isplitl [F_recvRes_rsR_0]
  · iexact F_recvRes_rsR_0
  isplitl [F_out0_0]
  · iexact F_out0_0
  isplitl [F_copyRes_agS_0]
  · iexact F_copyRes_agS_0
  iintro %v2 ⟨H_owes, F_stgX, F_stgW, F_accSrc0_0, F_got_rsR_0, F_peerOut_0, F_peerOut_1, F_recvRes_rsS_0, F_accSrc0_1, F_got_rsR_1, F_recvRes_rsS_1, F_closed_rsR_0, F_outShare0_0, F_outShare_0, F_copyRes_agS_0, F_recvRes_agS_0⟩
  try dsimp only
  -- k0_part148 (composite)
  rw [wp_bind]
  iapply (part148_spec m K c v2 fo (((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))))
  isplitl [H_owes]
  · iexact H_owes
  isplitl []
  · iexact Hlev
  isplitl [F_copyRes_agS_0]
  · iexact F_copyRes_agS_0
  isplitl [F_outShare_0]
  · iexact F_outShare_0
  isplitl [F_peerOut_0]
  · iexact F_peerOut_0
  isplitl [F_recvRes_agS_0]
  · iexact F_recvRes_agS_0
  isplitl [F_recvRes_rsR_1]
  · iexact F_recvRes_rsR_1
  isplitl [F_got_rsR_1]
  · iexact F_got_rsR_1
  isplitl [F_out0_1]
  · iexact F_out0_1
  isplitl [F_copyRes_agS_1]
  · iexact F_copyRes_agS_1
  isplitl [F_peerOut_1]
  · iexact F_peerOut_1
  isplitl [F_recvRes_rsS_0]
  · iexact F_recvRes_rsS_0
  isplitl [F_recvRes_rsS_1]
  · iexact F_recvRes_rsS_1
  isplitl [F_recvRes_agR_0]
  · iexact F_recvRes_agR_0
  iintro %r ⟨H_owes, F_recvRes_agS_0, F_got_rsR_1, F_closed_rsR_1, F_outShare0_1, F_recvRes_agS_1, F_got_rsS_0, F_closed_rsS_0, F_got_rsS_1, F_closed_rsS_1, F_recvRes_agR_0, F_got_agR_0, F_closed_agR_0⟩
  obtain ⟨v3005, c1_i32_3836⟩ := r
  try dsimp only
  -- k0_part121
  icases (bigSepL_pop (fun k : Fin 32 => recvRes m K agR c 0 k) 30 31 []) $$ F_recvRes_agR_0 with ⟨T1, F_recvRes_agR_0⟩
  ihave T2 := (bigSepL_one (fun k : Fin 32 => recvRes m K agR c 0 k) 31) $$ F_recvRes_agR_0
  ihave T3 := (bigSepL_one (fun k : Fin 32 => outShareAt m c 0 k) 0) $$ F_outShare0_0
  icases (bigSepL_pop (fun k : Fin 32 => gotAgR m c 0 k) 1 2 [3, 4, 5, 6, 7, 8, 9, 10, 11, 12, 13, 14, 15, 16, 17, 18, 19, 20, 21, 22, 23, 24, 25, 26, 27, 28, 29]) $$ F_got_agR_0 with ⟨T4, F_got_agR_0⟩
  icases (bigSepL_pop (fun k : Fin 32 => gotAgR m c 0 k) 2 3 [4, 5, 6, 7, 8, 9, 10, 11, 12, 13, 14, 15, 16, 17, 18, 19, 20, 21, 22, 23, 24, 25, 26, 27, 28, 29]) $$ F_got_agR_0 with ⟨T5, F_got_agR_0⟩
  icases (bigSepL_pop (fun k : Fin 32 => gotAgR m c 0 k) 3 4 [5, 6, 7, 8, 9, 10, 11, 12, 13, 14, 15, 16, 17, 18, 19, 20, 21, 22, 23, 24, 25, 26, 27, 28, 29]) $$ F_got_agR_0 with ⟨T6, F_got_agR_0⟩
  icases (bigSepL_pop (fun k : Fin 32 => gotAgR m c 0 k) 4 5 [6, 7, 8, 9, 10, 11, 12, 13, 14, 15, 16, 17, 18, 19, 20, 21, 22, 23, 24, 25, 26, 27, 28, 29]) $$ F_got_agR_0 with ⟨T7, F_got_agR_0⟩
  icases (bigSepL_pop (fun k : Fin 32 => gotAgR m c 0 k) 5 6 [7, 8, 9, 10, 11, 12, 13, 14, 15, 16, 17, 18, 19, 20, 21, 22, 23, 24, 25, 26, 27, 28, 29]) $$ F_got_agR_0 with ⟨T8, F_got_agR_0⟩
  icases (bigSepL_pop (fun k : Fin 32 => gotAgR m c 0 k) 6 7 [8, 9, 10, 11, 12, 13, 14, 15, 16, 17, 18, 19, 20, 21, 22, 23, 24, 25, 26, 27, 28, 29]) $$ F_got_agR_0 with ⟨T9, F_got_agR_0⟩
  icases (bigSepL_pop (fun k : Fin 32 => gotAgR m c 0 k) 7 8 [9, 10, 11, 12, 13, 14, 15, 16, 17, 18, 19, 20, 21, 22, 23, 24, 25, 26, 27, 28, 29]) $$ F_got_agR_0 with ⟨T10, F_got_agR_0⟩
  icases (bigSepL_pop (fun k : Fin 32 => gotAgR m c 0 k) 8 9 [10, 11, 12, 13, 14, 15, 16, 17, 18, 19, 20, 21, 22, 23, 24, 25, 26, 27, 28, 29]) $$ F_got_agR_0 with ⟨T11, F_got_agR_0⟩
  icases (bigSepL_pop (fun k : Fin 32 => gotAgR m c 0 k) 9 10 [11, 12, 13, 14, 15, 16, 17, 18, 19, 20, 21, 22, 23, 24, 25, 26, 27, 28, 29]) $$ F_got_agR_0 with ⟨T12, F_got_agR_0⟩
  icases (bigSepL_pop (fun k : Fin 32 => gotAgR m c 0 k) 10 11 [12, 13, 14, 15, 16, 17, 18, 19, 20, 21, 22, 23, 24, 25, 26, 27, 28, 29]) $$ F_got_agR_0 with ⟨T13, F_got_agR_0⟩
  icases (bigSepL_pop (fun k : Fin 32 => gotAgR m c 0 k) 11 12 [13, 14, 15, 16, 17, 18, 19, 20, 21, 22, 23, 24, 25, 26, 27, 28, 29]) $$ F_got_agR_0 with ⟨T14, F_got_agR_0⟩
  icases (bigSepL_pop (fun k : Fin 32 => gotAgR m c 0 k) 12 13 [14, 15, 16, 17, 18, 19, 20, 21, 22, 23, 24, 25, 26, 27, 28, 29]) $$ F_got_agR_0 with ⟨T15, F_got_agR_0⟩
  icases (bigSepL_pop (fun k : Fin 32 => gotAgR m c 0 k) 13 14 [15, 16, 17, 18, 19, 20, 21, 22, 23, 24, 25, 26, 27, 28, 29]) $$ F_got_agR_0 with ⟨T16, F_got_agR_0⟩
  icases (bigSepL_pop (fun k : Fin 32 => gotAgR m c 0 k) 14 15 [16, 17, 18, 19, 20, 21, 22, 23, 24, 25, 26, 27, 28, 29]) $$ F_got_agR_0 with ⟨T17, F_got_agR_0⟩
  icases (bigSepL_pop (fun k : Fin 32 => gotAgR m c 0 k) 15 16 [17, 18, 19, 20, 21, 22, 23, 24, 25, 26, 27, 28, 29]) $$ F_got_agR_0 with ⟨T18, F_got_agR_0⟩
  icases (bigSepL_pop (fun k : Fin 32 => gotAgR m c 0 k) 16 17 [18, 19, 20, 21, 22, 23, 24, 25, 26, 27, 28, 29]) $$ F_got_agR_0 with ⟨T19, F_got_agR_0⟩
  icases (bigSepL_pop (fun k : Fin 32 => gotAgR m c 0 k) 17 18 [19, 20, 21, 22, 23, 24, 25, 26, 27, 28, 29]) $$ F_got_agR_0 with ⟨T20, F_got_agR_0⟩
  icases (bigSepL_pop (fun k : Fin 32 => gotAgR m c 0 k) 18 19 [20, 21, 22, 23, 24, 25, 26, 27, 28, 29]) $$ F_got_agR_0 with ⟨T21, F_got_agR_0⟩
  icases (bigSepL_pop (fun k : Fin 32 => gotAgR m c 0 k) 19 20 [21, 22, 23, 24, 25, 26, 27, 28, 29]) $$ F_got_agR_0 with ⟨T22, F_got_agR_0⟩
  icases (bigSepL_pop (fun k : Fin 32 => gotAgR m c 0 k) 20 21 [22, 23, 24, 25, 26, 27, 28, 29]) $$ F_got_agR_0 with ⟨T23, F_got_agR_0⟩
  icases (bigSepL_pop (fun k : Fin 32 => gotAgR m c 0 k) 21 22 [23, 24, 25, 26, 27, 28, 29]) $$ F_got_agR_0 with ⟨T24, F_got_agR_0⟩
  icases (bigSepL_pop (fun k : Fin 32 => gotAgR m c 0 k) 22 23 [24, 25, 26, 27, 28, 29]) $$ F_got_agR_0 with ⟨T25, F_got_agR_0⟩
  icases (bigSepL_pop (fun k : Fin 32 => gotAgR m c 0 k) 23 24 [25, 26, 27, 28, 29]) $$ F_got_agR_0 with ⟨T26, F_got_agR_0⟩
  icases (bigSepL_pop (fun k : Fin 32 => gotAgR m c 0 k) 24 25 [26, 27, 28, 29]) $$ F_got_agR_0 with ⟨T27, F_got_agR_0⟩
  icases (bigSepL_pop (fun k : Fin 32 => gotAgR m c 0 k) 25 26 [27, 28, 29]) $$ F_got_agR_0 with ⟨T28, F_got_agR_0⟩
  icases (bigSepL_pop (fun k : Fin 32 => gotAgR m c 0 k) 26 27 [28, 29]) $$ F_got_agR_0 with ⟨T29, F_got_agR_0⟩
  icases (bigSepL_pop (fun k : Fin 32 => gotAgR m c 0 k) 27 28 [29]) $$ F_got_agR_0 with ⟨T30, F_got_agR_0⟩
  icases (bigSepL_pop (fun k : Fin 32 => gotAgR m c 0 k) 28 29 []) $$ F_got_agR_0 with ⟨T31, F_got_agR_0⟩
  ihave T32 := (bigSepL_one (fun k : Fin 32 => gotAgR m c 0 k) 29) $$ F_got_agR_0
  rw [wp_bind]
  iapply (part121_spec' m K c _ _ _ f2 (insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T1]
  · iexact T1
  isplitl [T2]
  · iexact T2
  isplitl []
  · iexact Hlev
  isplitl [T3]
  · iexact T3
  isplitl [T4]
  · iexact T4
  isplitl [T5]
  · iexact T5
  isplitl [T6]
  · iexact T6
  isplitl [T7]
  · iexact T7
  isplitl [T8]
  · iexact T8
  isplitl [T9]
  · iexact T9
  isplitl [T10]
  · iexact T10
  isplitl [T11]
  · iexact T11
  isplitl [T12]
  · iexact T12
  isplitl [T13]
  · iexact T13
  isplitl [T14]
  · iexact T14
  isplitl [T15]
  · iexact T15
  isplitl [T16]
  · iexact T16
  isplitl [T17]
  · iexact T17
  isplitl [T18]
  · iexact T18
  isplitl [T19]
  · iexact T19
  isplitl [T20]
  · iexact T20
  isplitl [T21]
  · iexact T21
  isplitl [T22]
  · iexact T22
  isplitl [T23]
  · iexact T23
  isplitl [T24]
  · iexact T24
  isplitl [T25]
  · iexact T25
  isplitl [T26]
  · iexact T26
  isplitl [T27]
  · iexact T27
  isplitl [T28]
  · iexact T28
  isplitl [T29]
  · iexact T29
  isplitl [T30]
  · iexact T30
  isplitl [T31]
  · iexact T31
  isplitl [T32]
  · iexact T32
  isplitl [F_stg2]
  · iexact F_stg2
  isplitl [H_owes]
  · iexact H_owes
  iintro %r ⟨P33, P34, P35, P36, P37, P38, P39, P40, P41, P42, P43, P44, P45, P46, P47, P48, P49, P50, P51, P52, P53, P54, P55, P56, P57, P58, P59, P60, P61, P62, P63, P64, P65, P66, F_stg2mid, H_owes⟩
  obtain ⟨v3033, c0_i32_3867⟩ := r
  try dsimp only
  ihave F_outShare0_0 := (bigSepL_wrap (fun k : Fin 32 => outShareAt m c 0 k) 0) $$ P33
  ihave F_got_agR_0 := (bigSepL_wrap (fun k : Fin 32 => gotAgR m c 0 k) 1) $$ P34
  ihave F_got_agR_0 := (bigSepL_snoc (fun k : Fin 32 => gotAgR m c 0 k) [1] 2 [1, 2] rfl) $$ [F_got_agR_0 P35]
  · isplitl [F_got_agR_0] <;> iassumption
  ihave F_got_agR_0 := (bigSepL_snoc (fun k : Fin 32 => gotAgR m c 0 k) [1, 2] 3 [1, 2, 3] rfl) $$ [F_got_agR_0 P36]
  · isplitl [F_got_agR_0] <;> iassumption
  ihave F_got_agR_0 := (bigSepL_snoc (fun k : Fin 32 => gotAgR m c 0 k) [1, 2, 3] 4 [1, 2, 3, 4] rfl) $$ [F_got_agR_0 P37]
  · isplitl [F_got_agR_0] <;> iassumption
  ihave F_got_agR_0 := (bigSepL_snoc (fun k : Fin 32 => gotAgR m c 0 k) [1, 2, 3, 4] 5 [1, 2, 3, 4, 5] rfl) $$ [F_got_agR_0 P38]
  · isplitl [F_got_agR_0] <;> iassumption
  ihave F_got_agR_0 := (bigSepL_snoc (fun k : Fin 32 => gotAgR m c 0 k) [1, 2, 3, 4, 5] 6 [1, 2, 3, 4, 5, 6] rfl) $$ [F_got_agR_0 P39]
  · isplitl [F_got_agR_0] <;> iassumption
  ihave F_got_agR_0 := (bigSepL_snoc (fun k : Fin 32 => gotAgR m c 0 k) [1, 2, 3, 4, 5, 6] 7 [1, 2, 3, 4, 5, 6, 7] rfl) $$ [F_got_agR_0 P40]
  · isplitl [F_got_agR_0] <;> iassumption
  ihave F_got_agR_0 := (bigSepL_snoc (fun k : Fin 32 => gotAgR m c 0 k) [1, 2, 3, 4, 5, 6, 7] 8 [1, 2, 3, 4, 5, 6, 7, 8] rfl) $$ [F_got_agR_0 P41]
  · isplitl [F_got_agR_0] <;> iassumption
  ihave F_got_agR_0 := (bigSepL_snoc (fun k : Fin 32 => gotAgR m c 0 k) [1, 2, 3, 4, 5, 6, 7, 8] 9 [1, 2, 3, 4, 5, 6, 7, 8, 9] rfl) $$ [F_got_agR_0 P42]
  · isplitl [F_got_agR_0] <;> iassumption
  ihave F_got_agR_0 := (bigSepL_snoc (fun k : Fin 32 => gotAgR m c 0 k) [1, 2, 3, 4, 5, 6, 7, 8, 9] 10 [1, 2, 3, 4, 5, 6, 7, 8, 9, 10] rfl) $$ [F_got_agR_0 P43]
  · isplitl [F_got_agR_0] <;> iassumption
  ihave F_got_agR_0 := (bigSepL_snoc (fun k : Fin 32 => gotAgR m c 0 k) [1, 2, 3, 4, 5, 6, 7, 8, 9, 10] 11 [1, 2, 3, 4, 5, 6, 7, 8, 9, 10, 11] rfl) $$ [F_got_agR_0 P44]
  · isplitl [F_got_agR_0] <;> iassumption
  ihave F_got_agR_0 := (bigSepL_snoc (fun k : Fin 32 => gotAgR m c 0 k) [1, 2, 3, 4, 5, 6, 7, 8, 9, 10, 11] 12 [1, 2, 3, 4, 5, 6, 7, 8, 9, 10, 11, 12] rfl) $$ [F_got_agR_0 P45]
  · isplitl [F_got_agR_0] <;> iassumption
  ihave F_got_agR_0 := (bigSepL_snoc (fun k : Fin 32 => gotAgR m c 0 k) [1, 2, 3, 4, 5, 6, 7, 8, 9, 10, 11, 12] 13 [1, 2, 3, 4, 5, 6, 7, 8, 9, 10, 11, 12, 13] rfl) $$ [F_got_agR_0 P46]
  · isplitl [F_got_agR_0] <;> iassumption
  ihave F_got_agR_0 := (bigSepL_snoc (fun k : Fin 32 => gotAgR m c 0 k) [1, 2, 3, 4, 5, 6, 7, 8, 9, 10, 11, 12, 13] 14 [1, 2, 3, 4, 5, 6, 7, 8, 9, 10, 11, 12, 13, 14] rfl) $$ [F_got_agR_0 P47]
  · isplitl [F_got_agR_0] <;> iassumption
  ihave F_got_agR_0 := (bigSepL_snoc (fun k : Fin 32 => gotAgR m c 0 k) [1, 2, 3, 4, 5, 6, 7, 8, 9, 10, 11, 12, 13, 14] 15 [1, 2, 3, 4, 5, 6, 7, 8, 9, 10, 11, 12, 13, 14, 15] rfl) $$ [F_got_agR_0 P48]
  · isplitl [F_got_agR_0] <;> iassumption
  ihave F_got_agR_0 := (bigSepL_snoc (fun k : Fin 32 => gotAgR m c 0 k) [1, 2, 3, 4, 5, 6, 7, 8, 9, 10, 11, 12, 13, 14, 15] 16 [1, 2, 3, 4, 5, 6, 7, 8, 9, 10, 11, 12, 13, 14, 15, 16] rfl) $$ [F_got_agR_0 P49]
  · isplitl [F_got_agR_0] <;> iassumption
  ihave F_got_agR_0 := (bigSepL_snoc (fun k : Fin 32 => gotAgR m c 0 k) [1, 2, 3, 4, 5, 6, 7, 8, 9, 10, 11, 12, 13, 14, 15, 16] 17 [1, 2, 3, 4, 5, 6, 7, 8, 9, 10, 11, 12, 13, 14, 15, 16, 17] rfl) $$ [F_got_agR_0 P50]
  · isplitl [F_got_agR_0] <;> iassumption
  ihave F_got_agR_0 := (bigSepL_snoc (fun k : Fin 32 => gotAgR m c 0 k) [1, 2, 3, 4, 5, 6, 7, 8, 9, 10, 11, 12, 13, 14, 15, 16, 17] 18 [1, 2, 3, 4, 5, 6, 7, 8, 9, 10, 11, 12, 13, 14, 15, 16, 17, 18] rfl) $$ [F_got_agR_0 P51]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_got_agR_0 P52]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_got_agR_0 P53]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_got_agR_0 P54]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_got_agR_0 P55]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_got_agR_0 P56]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_got_agR_0 P57]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_got_agR_0 P58]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_got_agR_0 P59]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_got_agR_0 P60]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_got_agR_0 P61]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_got_agR_0 P62]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_got_agR_0 P63]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_got_agR_0 P64]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_closed_agR_0 P65]
  · isplitl [F_closed_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_closed_agR_0 P66]
  · isplitl [F_closed_agR_0] <;> iassumption
  -- k0_part122
  icases (bigSepL_pop (fun k : Fin 32 => recvRes m K agR c 1 k) 1 2 [3, 4, 5, 6, 7, 8, 9, 10, 11, 12, 13, 14, 15, 16, 17, 18, 19, 20, 21, 22, 23, 24, 25, 26, 27, 28, 29, 30, 31]) $$ F_recvRes_agR_1 with ⟨T67, F_recvRes_agR_1⟩
  icases (bigSepL_pop (fun k : Fin 32 => recvRes m K agR c 1 k) 2 3 [4, 5, 6, 7, 8, 9, 10, 11, 12, 13, 14, 15, 16, 17, 18, 19, 20, 21, 22, 23, 24, 25, 26, 27, 28, 29, 30, 31]) $$ F_recvRes_agR_1 with ⟨T68, F_recvRes_agR_1⟩
  icases (bigSepL_pop (fun k : Fin 32 => recvRes m K agR c 1 k) 3 4 [5, 6, 7, 8, 9, 10, 11, 12, 13, 14, 15, 16, 17, 18, 19, 20, 21, 22, 23, 24, 25, 26, 27, 28, 29, 30, 31]) $$ F_recvRes_agR_1 with ⟨T69, F_recvRes_agR_1⟩
  rw [wp_bind]
  iapply (part122_spec' m K c _ _ _ (insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T67]
  · iexact T67
  isplitl [T68]
  · iexact T68
  isplitl [T69]
  · iexact T69
  isplitl []
  · iexact Hlev
  isplitl [H_owes]
  · iexact H_owes
  iintro %v3061 ⟨P70, P71, P72, P73, P74, P75, H_owes⟩
  try dsimp only
  ihave F_got_agR_1 := (bigSepL_wrap (fun k : Fin 32 => gotAgR m c 1 k) 1) $$ P70
  ihave F_closed_agR_1 := (bigSepL_wrap (fun k : Fin 32 => closedAt m K c 1 k agR) 1) $$ P71
  ihave F_got_agR_1 := (bigSepL_snoc (fun k : Fin 32 => gotAgR m c 1 k) [1] 2 [1, 2] rfl) $$ [F_got_agR_1 P72]
  · isplitl [F_got_agR_1] <;> iassumption
  ihave F_closed_agR_1 := (bigSepL_snoc (fun k : Fin 32 => closedAt m K c 1 k agR) [1] 2 [1, 2] rfl) $$ [F_closed_agR_1 P73]
  · isplitl [F_closed_agR_1] <;> iassumption
  ihave F_got_agR_1 := (bigSepL_snoc (fun k : Fin 32 => gotAgR m c 1 k) [1, 2] 3 [1, 2, 3] rfl) $$ [F_got_agR_1 P74]
  · isplitl [F_got_agR_1] <;> iassumption
  ihave F_closed_agR_1 := (bigSepL_snoc (fun k : Fin 32 => closedAt m K c 1 k agR) [1, 2] 3 [1, 2, 3] rfl) $$ [F_closed_agR_1 P75]
  · isplitl [F_closed_agR_1] <;> iassumption
  -- k0_part123
  icases (bigSepL_pop (fun k : Fin 32 => recvRes m K agR c 1 k) 4 5 [6, 7, 8, 9, 10, 11, 12, 13, 14, 15, 16, 17, 18, 19, 20, 21, 22, 23, 24, 25, 26, 27, 28, 29, 30, 31]) $$ F_recvRes_agR_1 with ⟨T76, F_recvRes_agR_1⟩
  icases (bigSepL_pop (fun k : Fin 32 => recvRes m K agR c 1 k) 5 6 [7, 8, 9, 10, 11, 12, 13, 14, 15, 16, 17, 18, 19, 20, 21, 22, 23, 24, 25, 26, 27, 28, 29, 30, 31]) $$ F_recvRes_agR_1 with ⟨T77, F_recvRes_agR_1⟩
  rw [wp_bind]
  iapply (part123_spec' m K c _ _ (insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T76]
  · iexact T76
  isplitl [T77]
  · iexact T77
  isplitl []
  · iexact Hlev
  isplitl [H_owes]
  · iexact H_owes
  iintro %v3085 ⟨P78, P79, P80, P81, H_owes⟩
  try dsimp only
  ihave F_got_agR_1 := (bigSepL_snoc (fun k : Fin 32 => gotAgR m c 1 k) [1, 2, 3] 4 [1, 2, 3, 4] rfl) $$ [F_got_agR_1 P78]
  · isplitl [F_got_agR_1] <;> iassumption
  ihave F_closed_agR_1 := (bigSepL_snoc (fun k : Fin 32 => closedAt m K c 1 k agR) [1, 2, 3] 4 [1, 2, 3, 4] rfl) $$ [F_closed_agR_1 P79]
  · isplitl [F_closed_agR_1] <;> iassumption
  ihave F_got_agR_1 := (bigSepL_snoc (fun k : Fin 32 => gotAgR m c 1 k) [1, 2, 3, 4] 5 [1, 2, 3, 4, 5] rfl) $$ [F_got_agR_1 P80]
  · isplitl [F_got_agR_1] <;> iassumption
  ihave F_closed_agR_1 := (bigSepL_snoc (fun k : Fin 32 => closedAt m K c 1 k agR) [1, 2, 3, 4] 5 [1, 2, 3, 4, 5] rfl) $$ [F_closed_agR_1 P81]
  · isplitl [F_closed_agR_1] <;> iassumption
  -- k0_part124
  icases (bigSepL_pop (fun k : Fin 32 => recvRes m K agR c 1 k) 6 7 [8, 9, 10, 11, 12, 13, 14, 15, 16, 17, 18, 19, 20, 21, 22, 23, 24, 25, 26, 27, 28, 29, 30, 31]) $$ F_recvRes_agR_1 with ⟨T82, F_recvRes_agR_1⟩
  icases (bigSepL_pop (fun k : Fin 32 => recvRes m K agR c 1 k) 7 8 [9, 10, 11, 12, 13, 14, 15, 16, 17, 18, 19, 20, 21, 22, 23, 24, 25, 26, 27, 28, 29, 30, 31]) $$ F_recvRes_agR_1 with ⟨T83, F_recvRes_agR_1⟩
  rw [wp_bind]
  iapply (part124_spec' m K c _ _ (insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T82]
  · iexact T82
  isplitl [T83]
  · iexact T83
  isplitl []
  · iexact Hlev
  isplitl [H_owes]
  · iexact H_owes
  iintro %r ⟨P84, P85, P86, P87, H_owes⟩
  try dsimp only
  ihave F_got_agR_1 := (bigSepL_snoc (fun k : Fin 32 => gotAgR m c 1 k) [1, 2, 3, 4, 5] 6 [1, 2, 3, 4, 5, 6] rfl) $$ [F_got_agR_1 P84]
  · isplitl [F_got_agR_1] <;> iassumption
  ihave F_closed_agR_1 := (bigSepL_snoc (fun k : Fin 32 => closedAt m K c 1 k agR) [1, 2, 3, 4, 5] 6 [1, 2, 3, 4, 5, 6] rfl) $$ [F_closed_agR_1 P85]
  · isplitl [F_closed_agR_1] <;> iassumption
  ihave F_got_agR_1 := (bigSepL_snoc (fun k : Fin 32 => gotAgR m c 1 k) [1, 2, 3, 4, 5, 6] 7 [1, 2, 3, 4, 5, 6, 7] rfl) $$ [F_got_agR_1 P86]
  · isplitl [F_got_agR_1] <;> iassumption
  ihave F_closed_agR_1 := (bigSepL_snoc (fun k : Fin 32 => closedAt m K c 1 k agR) [1, 2, 3, 4, 5, 6] 7 [1, 2, 3, 4, 5, 6, 7] rfl) $$ [F_closed_agR_1 P87]
  · isplitl [F_closed_agR_1] <;> iassumption
  -- k0_part125
  icases (bigSepL_pop (fun k : Fin 32 => recvRes m K agR c 1 k) 8 9 [10, 11, 12, 13, 14, 15, 16, 17, 18, 19, 20, 21, 22, 23, 24, 25, 26, 27, 28, 29, 30, 31]) $$ F_recvRes_agR_1 with ⟨T88, F_recvRes_agR_1⟩
  icases (bigSepL_pop (fun k : Fin 32 => recvRes m K agR c 1 k) 9 10 [11, 12, 13, 14, 15, 16, 17, 18, 19, 20, 21, 22, 23, 24, 25, 26, 27, 28, 29, 30, 31]) $$ F_recvRes_agR_1 with ⟨T89, F_recvRes_agR_1⟩
  icases (bigSepL_pop (fun k : Fin 32 => recvRes m K agR c 1 k) 10 11 [12, 13, 14, 15, 16, 17, 18, 19, 20, 21, 22, 23, 24, 25, 26, 27, 28, 29, 30, 31]) $$ F_recvRes_agR_1 with ⟨T90, F_recvRes_agR_1⟩
  rw [wp_bind]
  iapply (part125_spec' m K c _ (insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T88]
  · iexact T88
  isplitl [T89]
  · iexact T89
  isplitl [T90]
  · iexact T90
  isplitl []
  · iexact Hlev
  isplitl [H_owes]
  · iexact H_owes
  iintro %r ⟨P91, P92, P93, P94, P95, P96, H_owes⟩
  obtain ⟨v3140, c32_i32_3990⟩ := r
  try dsimp only
  ihave F_got_agR_1 := (bigSepL_snoc (fun k : Fin 32 => gotAgR m c 1 k) [1, 2, 3, 4, 5, 6, 7] 8 [1, 2, 3, 4, 5, 6, 7, 8] rfl) $$ [F_got_agR_1 P91]
  · isplitl [F_got_agR_1] <;> iassumption
  ihave F_closed_agR_1 := (bigSepL_snoc (fun k : Fin 32 => closedAt m K c 1 k agR) [1, 2, 3, 4, 5, 6, 7] 8 [1, 2, 3, 4, 5, 6, 7, 8] rfl) $$ [F_closed_agR_1 P92]
  · isplitl [F_closed_agR_1] <;> iassumption
  ihave F_got_agR_1 := (bigSepL_snoc (fun k : Fin 32 => gotAgR m c 1 k) [1, 2, 3, 4, 5, 6, 7, 8] 9 [1, 2, 3, 4, 5, 6, 7, 8, 9] rfl) $$ [F_got_agR_1 P93]
  · isplitl [F_got_agR_1] <;> iassumption
  ihave F_closed_agR_1 := (bigSepL_snoc (fun k : Fin 32 => closedAt m K c 1 k agR) [1, 2, 3, 4, 5, 6, 7, 8] 9 [1, 2, 3, 4, 5, 6, 7, 8, 9] rfl) $$ [F_closed_agR_1 P94]
  · isplitl [F_closed_agR_1] <;> iassumption
  ihave F_got_agR_1 := (bigSepL_snoc (fun k : Fin 32 => gotAgR m c 1 k) [1, 2, 3, 4, 5, 6, 7, 8, 9] 10 [1, 2, 3, 4, 5, 6, 7, 8, 9, 10] rfl) $$ [F_got_agR_1 P95]
  · isplitl [F_got_agR_1] <;> iassumption
  ihave F_closed_agR_1 := (bigSepL_snoc (fun k : Fin 32 => closedAt m K c 1 k agR) [1, 2, 3, 4, 5, 6, 7, 8, 9] 10 [1, 2, 3, 4, 5, 6, 7, 8, 9, 10] rfl) $$ [F_closed_agR_1 P96]
  · isplitl [F_closed_agR_1] <;> iassumption
  -- k0_part126
  icases (bigSepL_pop (fun k : Fin 32 => recvRes m K agR c 1 k) 11 12 [13, 14, 15, 16, 17, 18, 19, 20, 21, 22, 23, 24, 25, 26, 27, 28, 29, 30, 31]) $$ F_recvRes_agR_1 with ⟨T97, F_recvRes_agR_1⟩
  icases (bigSepL_pop (fun k : Fin 32 => recvRes m K agR c 1 k) 12 13 [14, 15, 16, 17, 18, 19, 20, 21, 22, 23, 24, 25, 26, 27, 28, 29, 30, 31]) $$ F_recvRes_agR_1 with ⟨T98, F_recvRes_agR_1⟩
  rw [wp_bind]
  iapply (part126_spec' m K c _ _ _ (insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T97]
  · iexact T97
  isplitl [T98]
  · iexact T98
  isplitl []
  · iexact Hlev
  isplitl [H_owes]
  · iexact H_owes
  iintro %r ⟨P99, P100, P101, P102, H_owes⟩
  obtain ⟨v3165, c0_i32_4023⟩ := r
  try dsimp only
  ihave F_got_agR_1 := (bigSepL_snoc (fun k : Fin 32 => gotAgR m c 1 k) [1, 2, 3, 4, 5, 6, 7, 8, 9, 10] 11 [1, 2, 3, 4, 5, 6, 7, 8, 9, 10, 11] rfl) $$ [F_got_agR_1 P99]
  · isplitl [F_got_agR_1] <;> iassumption
  ihave F_closed_agR_1 := (bigSepL_snoc (fun k : Fin 32 => closedAt m K c 1 k agR) [1, 2, 3, 4, 5, 6, 7, 8, 9, 10] 11 [1, 2, 3, 4, 5, 6, 7, 8, 9, 10, 11] rfl) $$ [F_closed_agR_1 P100]
  · isplitl [F_closed_agR_1] <;> iassumption
  ihave F_got_agR_1 := (bigSepL_snoc (fun k : Fin 32 => gotAgR m c 1 k) [1, 2, 3, 4, 5, 6, 7, 8, 9, 10, 11] 12 [1, 2, 3, 4, 5, 6, 7, 8, 9, 10, 11, 12] rfl) $$ [F_got_agR_1 P101]
  · isplitl [F_got_agR_1] <;> iassumption
  ihave F_closed_agR_1 := (bigSepL_snoc (fun k : Fin 32 => closedAt m K c 1 k agR) [1, 2, 3, 4, 5, 6, 7, 8, 9, 10, 11] 12 [1, 2, 3, 4, 5, 6, 7, 8, 9, 10, 11, 12] rfl) $$ [F_closed_agR_1 P102]
  · isplitl [F_closed_agR_1] <;> iassumption
  -- k0_part127
  icases (bigSepL_pop (fun k : Fin 32 => recvRes m K agR c 1 k) 13 14 [15, 16, 17, 18, 19, 20, 21, 22, 23, 24, 25, 26, 27, 28, 29, 30, 31]) $$ F_recvRes_agR_1 with ⟨T103, F_recvRes_agR_1⟩
  icases (bigSepL_pop (fun k : Fin 32 => recvRes m K agR c 1 k) 14 15 [16, 17, 18, 19, 20, 21, 22, 23, 24, 25, 26, 27, 28, 29, 30, 31]) $$ F_recvRes_agR_1 with ⟨T104, F_recvRes_agR_1⟩
  icases (bigSepL_pop (fun k : Fin 32 => recvRes m K agR c 1 k) 15 16 [17, 18, 19, 20, 21, 22, 23, 24, 25, 26, 27, 28, 29, 30, 31]) $$ F_recvRes_agR_1 with ⟨T105, F_recvRes_agR_1⟩
  rw [wp_bind]
  iapply (part127_spec' m K c _ _ _ (insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T103]
  · iexact T103
  isplitl [T104]
  · iexact T104
  isplitl [T105]
  · iexact T105
  isplitl []
  · iexact Hlev
  isplitl [H_owes]
  · iexact H_owes
  iintro %v3193 ⟨P106, P107, P108, P109, P110, P111, H_owes⟩
  try dsimp only
  ihave F_got_agR_1 := (bigSepL_snoc (fun k : Fin 32 => gotAgR m c 1 k) [1, 2, 3, 4, 5, 6, 7, 8, 9, 10, 11, 12] 13 [1, 2, 3, 4, 5, 6, 7, 8, 9, 10, 11, 12, 13] rfl) $$ [F_got_agR_1 P106]
  · isplitl [F_got_agR_1] <;> iassumption
  ihave F_closed_agR_1 := (bigSepL_snoc (fun k : Fin 32 => closedAt m K c 1 k agR) [1, 2, 3, 4, 5, 6, 7, 8, 9, 10, 11, 12] 13 [1, 2, 3, 4, 5, 6, 7, 8, 9, 10, 11, 12, 13] rfl) $$ [F_closed_agR_1 P107]
  · isplitl [F_closed_agR_1] <;> iassumption
  ihave F_got_agR_1 := (bigSepL_snoc (fun k : Fin 32 => gotAgR m c 1 k) [1, 2, 3, 4, 5, 6, 7, 8, 9, 10, 11, 12, 13] 14 [1, 2, 3, 4, 5, 6, 7, 8, 9, 10, 11, 12, 13, 14] rfl) $$ [F_got_agR_1 P108]
  · isplitl [F_got_agR_1] <;> iassumption
  ihave F_closed_agR_1 := (bigSepL_snoc (fun k : Fin 32 => closedAt m K c 1 k agR) [1, 2, 3, 4, 5, 6, 7, 8, 9, 10, 11, 12, 13] 14 [1, 2, 3, 4, 5, 6, 7, 8, 9, 10, 11, 12, 13, 14] rfl) $$ [F_closed_agR_1 P109]
  · isplitl [F_closed_agR_1] <;> iassumption
  ihave F_got_agR_1 := (bigSepL_snoc (fun k : Fin 32 => gotAgR m c 1 k) [1, 2, 3, 4, 5, 6, 7, 8, 9, 10, 11, 12, 13, 14] 15 [1, 2, 3, 4, 5, 6, 7, 8, 9, 10, 11, 12, 13, 14, 15] rfl) $$ [F_got_agR_1 P110]
  · isplitl [F_got_agR_1] <;> iassumption
  ihave F_closed_agR_1 := (bigSepL_snoc (fun k : Fin 32 => closedAt m K c 1 k agR) [1, 2, 3, 4, 5, 6, 7, 8, 9, 10, 11, 12, 13, 14] 15 [1, 2, 3, 4, 5, 6, 7, 8, 9, 10, 11, 12, 13, 14, 15] rfl) $$ [F_closed_agR_1 P111]
  · isplitl [F_closed_agR_1] <;> iassumption
  -- k0_part128
  icases (bigSepL_pop (fun k : Fin 32 => recvRes m K agR c 1 k) 16 17 [18, 19, 20, 21, 22, 23, 24, 25, 26, 27, 28, 29, 30, 31]) $$ F_recvRes_agR_1 with ⟨T112, F_recvRes_agR_1⟩
  icases (bigSepL_pop (fun k : Fin 32 => recvRes m K agR c 1 k) 17 18 [19, 20, 21, 22, 23, 24, 25, 26, 27, 28, 29, 30, 31]) $$ F_recvRes_agR_1 with ⟨T113, F_recvRes_agR_1⟩
  rw [wp_bind]
  iapply (part128_spec' m K c _ _ (insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T112]
  · iexact T112
  isplitl [T113]
  · iexact T113
  isplitl []
  · iexact Hlev
  isplitl [H_owes]
  · iexact H_owes
  iintro %v3217 ⟨P114, P115, P116, P117, H_owes⟩
  try dsimp only
  ihave F_got_agR_1 := (bigSepL_snoc (fun k : Fin 32 => gotAgR m c 1 k) [1, 2, 3, 4, 5, 6, 7, 8, 9, 10, 11, 12, 13, 14, 15] 16 [1, 2, 3, 4, 5, 6, 7, 8, 9, 10, 11, 12, 13, 14, 15, 16] rfl) $$ [F_got_agR_1 P114]
  · isplitl [F_got_agR_1] <;> iassumption
  ihave F_closed_agR_1 := (bigSepL_snoc (fun k : Fin 32 => closedAt m K c 1 k agR) [1, 2, 3, 4, 5, 6, 7, 8, 9, 10, 11, 12, 13, 14, 15] 16 [1, 2, 3, 4, 5, 6, 7, 8, 9, 10, 11, 12, 13, 14, 15, 16] rfl) $$ [F_closed_agR_1 P115]
  · isplitl [F_closed_agR_1] <;> iassumption
  ihave F_got_agR_1 := (bigSepL_snoc (fun k : Fin 32 => gotAgR m c 1 k) [1, 2, 3, 4, 5, 6, 7, 8, 9, 10, 11, 12, 13, 14, 15, 16] 17 [1, 2, 3, 4, 5, 6, 7, 8, 9, 10, 11, 12, 13, 14, 15, 16, 17] rfl) $$ [F_got_agR_1 P116]
  · isplitl [F_got_agR_1] <;> iassumption
  ihave F_closed_agR_1 := (bigSepL_snoc (fun k : Fin 32 => closedAt m K c 1 k agR) [1, 2, 3, 4, 5, 6, 7, 8, 9, 10, 11, 12, 13, 14, 15, 16] 17 [1, 2, 3, 4, 5, 6, 7, 8, 9, 10, 11, 12, 13, 14, 15, 16, 17] rfl) $$ [F_closed_agR_1 P117]
  · isplitl [F_closed_agR_1] <;> iassumption
  -- k0_part129
  icases (bigSepL_pop (fun k : Fin 32 => recvRes m K agR c 1 k) 18 19 [20, 21, 22, 23, 24, 25, 26, 27, 28, 29, 30, 31]) $$ F_recvRes_agR_1 with ⟨T118, F_recvRes_agR_1⟩
  icases (bigSepL_pop (fun k : Fin 32 => recvRes m K agR c 1 k) 19 20 [21, 22, 23, 24, 25, 26, 27, 28, 29, 30, 31]) $$ F_recvRes_agR_1 with ⟨T119, F_recvRes_agR_1⟩
  rw [wp_bind]
  iapply (part129_spec' m K c _ _ (insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T118]
  · iexact T118
  isplitl [T119]
  · iexact T119
  isplitl []
  · iexact Hlev
  isplitl [H_owes]
  · iexact H_owes
  iintro %r ⟨P120, P121, P122, P123, H_owes⟩
  try dsimp only
  ihave F_got_agR_1 := (bigSepL_snoc (fun k : Fin 32 => gotAgR m c 1 k) [1, 2, 3, 4, 5, 6, 7, 8, 9, 10, 11, 12, 13, 14, 15, 16, 17] 18 [1, 2, 3, 4, 5, 6, 7, 8, 9, 10, 11, 12, 13, 14, 15, 16, 17, 18] rfl) $$ [F_got_agR_1 P120]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17] 18 [1, 2, 3, 4, 5, 6, 7, 8, 9, 10, 11, 12, 13, 14, 15, 16, 17, 18] rfl) $$ [F_closed_agR_1 P121]
  · isplitl [F_closed_agR_1] <;> iassumption
  ihave F_got_agR_1 := (bigSepL_snoc (fun k : Fin 32 => gotAgR m c 1 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_got_agR_1 P122]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_closed_agR_1 P123]
  · isplitl [F_closed_agR_1] <;> iassumption
  -- k0_part130
  icases (bigSepL_pop (fun k : Fin 32 => recvRes m K agR c 1 k) 20 21 [22, 23, 24, 25, 26, 27, 28, 29, 30, 31]) $$ F_recvRes_agR_1 with ⟨T124, F_recvRes_agR_1⟩
  icases (bigSepL_pop (fun k : Fin 32 => recvRes m K agR c 1 k) 21 22 [23, 24, 25, 26, 27, 28, 29, 30, 31]) $$ F_recvRes_agR_1 with ⟨T125, F_recvRes_agR_1⟩
  icases (bigSepL_pop (fun k : Fin 32 => recvRes m K agR c 1 k) 22 23 [24, 25, 26, 27, 28, 29, 30, 31]) $$ F_recvRes_agR_1 with ⟨T126, F_recvRes_agR_1⟩
  rw [wp_bind]
  iapply (part130_spec' m K c _ (insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T124]
  · iexact T124
  isplitl [T125]
  · iexact T125
  isplitl [T126]
  · iexact T126
  isplitl []
  · iexact Hlev
  isplitl [H_owes]
  · iexact H_owes
  iintro %r ⟨P127, P128, P129, P130, P131, P132, H_owes⟩
  obtain ⟨v3272, c32_i32_4146⟩ := r
  try dsimp only
  ihave F_got_agR_1 := (bigSepL_snoc (fun k : Fin 32 => gotAgR m c 1 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_got_agR_1 P127]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_closed_agR_1 P128]
  · isplitl [F_closed_agR_1] <;> iassumption
  ihave F_got_agR_1 := (bigSepL_snoc (fun k : Fin 32 => gotAgR m c 1 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_got_agR_1 P129]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_closed_agR_1 P130]
  · isplitl [F_closed_agR_1] <;> iassumption
  ihave F_got_agR_1 := (bigSepL_snoc (fun k : Fin 32 => gotAgR m c 1 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_got_agR_1 P131]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_closed_agR_1 P132]
  · isplitl [F_closed_agR_1] <;> iassumption
  -- k0_part131
  icases (bigSepL_pop (fun k : Fin 32 => recvRes m K agR c 1 k) 23 24 [25, 26, 27, 28, 29, 30, 31]) $$ F_recvRes_agR_1 with ⟨T133, F_recvRes_agR_1⟩
  icases (bigSepL_pop (fun k : Fin 32 => recvRes m K agR c 1 k) 24 25 [26, 27, 28, 29, 30, 31]) $$ F_recvRes_agR_1 with ⟨T134, F_recvRes_agR_1⟩
  rw [wp_bind]
  iapply (part131_spec' m K c _ _ _ (insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T133]
  · iexact T133
  isplitl [T134]
  · iexact T134
  isplitl []
  · iexact Hlev
  isplitl [H_owes]
  · iexact H_owes
  iintro %r ⟨P135, P136, P137, P138, H_owes⟩
  obtain ⟨v3297, c0_i32_4179⟩ := r
  try dsimp only
  ihave F_got_agR_1 := (bigSepL_snoc (fun k : Fin 32 => gotAgR m c 1 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_got_agR_1 P135]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_closed_agR_1 P136]
  · isplitl [F_closed_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_got_agR_1 P137]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_closed_agR_1 P138]
  · isplitl [F_closed_agR_1] <;> iassumption
  -- k0_part132
  icases (bigSepL_pop (fun k : Fin 32 => recvRes m K agR c 1 k) 25 26 [27, 28, 29, 30, 31]) $$ F_recvRes_agR_1 with ⟨T139, F_recvRes_agR_1⟩
  icases (bigSepL_pop (fun k : Fin 32 => recvRes m K agR c 1 k) 26 27 [28, 29, 30, 31]) $$ F_recvRes_agR_1 with ⟨T140, F_recvRes_agR_1⟩
  icases (bigSepL_pop (fun k : Fin 32 => recvRes m K agR c 1 k) 27 28 [29, 30, 31]) $$ F_recvRes_agR_1 with ⟨T141, F_recvRes_agR_1⟩
  rw [wp_bind]
  iapply (part132_spec' m K c _ _ _ (insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T139]
  · iexact T139
  isplitl [T140]
  · iexact T140
  isplitl [T141]
  · iexact T141
  isplitl []
  · iexact Hlev
  isplitl [H_owes]
  · iexact H_owes
  iintro %v3325 ⟨P142, P143, P144, P145, P146, P147, H_owes⟩
  try dsimp only
  ihave F_got_agR_1 := (bigSepL_snoc (fun k : Fin 32 => gotAgR m c 1 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_got_agR_1 P142]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_closed_agR_1 P143]
  · isplitl [F_closed_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_got_agR_1 P144]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_closed_agR_1 P145]
  · isplitl [F_closed_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_got_agR_1 P146]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_closed_agR_1 P147]
  · isplitl [F_closed_agR_1] <;> iassumption
  -- k0_part133
  icases (bigSepL_pop (fun k : Fin 32 => recvRes m K agR c 1 k) 28 29 [30, 31]) $$ F_recvRes_agR_1 with ⟨T148, F_recvRes_agR_1⟩
  icases (bigSepL_pop (fun k : Fin 32 => recvRes m K agR c 1 k) 29 30 [31]) $$ F_recvRes_agR_1 with ⟨T149, F_recvRes_agR_1⟩
  rw [wp_bind]
  iapply (part133_spec' m K c _ _ (insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T148]
  · iexact T148
  isplitl [T149]
  · iexact T149
  isplitl []
  · iexact Hlev
  isplitl [H_owes]
  · iexact H_owes
  iintro %v3349 ⟨P150, P151, P152, P153, H_owes⟩
  try dsimp only
  ihave F_got_agR_1 := (bigSepL_snoc (fun k : Fin 32 => gotAgR m c 1 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_got_agR_1 P150]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_closed_agR_1 P151]
  · isplitl [F_closed_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_got_agR_1 P152]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_closed_agR_1 P153]
  · isplitl [F_closed_agR_1] <;> iassumption
  -- k0_part134
  icases (bigSepL_pop (fun k : Fin 32 => recvRes m K agR c 1 k) 30 31 []) $$ F_recvRes_agR_1 with ⟨T154, F_recvRes_agR_1⟩
  ihave T155 := (bigSepL_one (fun k : Fin 32 => recvRes m K agR c 1 k) 31) $$ F_recvRes_agR_1
  icases (bigSepL_pop (fun k : Fin 32 => recvRes m K agS c 0 k) 1 2 [3, 4, 5, 6, 7, 8, 9, 10, 11, 12, 13, 14, 15, 16, 17, 18, 19, 20, 21, 22, 23, 24, 25, 26, 27, 28, 29, 30, 31]) $$ F_recvRes_agS_0 with ⟨T156, F_recvRes_agS_0⟩
  ihave T157 := (bigSepL_one (fun k : Fin 32 => outShareAt m c 1 k) 0) $$ F_outShare0_1
  icases (bigSepL_pop (fun k : Fin 32 => gotAgR m c 1 k) 1 2 [3, 4, 5, 6, 7, 8, 9, 10, 11, 12, 13, 14, 15, 16, 17, 18, 19, 20, 21, 22, 23, 24, 25, 26, 27, 28, 29]) $$ F_got_agR_1 with ⟨T158, F_got_agR_1⟩
  icases (bigSepL_pop (fun k : Fin 32 => gotAgR m c 1 k) 2 3 [4, 5, 6, 7, 8, 9, 10, 11, 12, 13, 14, 15, 16, 17, 18, 19, 20, 21, 22, 23, 24, 25, 26, 27, 28, 29]) $$ F_got_agR_1 with ⟨T159, F_got_agR_1⟩
  icases (bigSepL_pop (fun k : Fin 32 => gotAgR m c 1 k) 3 4 [5, 6, 7, 8, 9, 10, 11, 12, 13, 14, 15, 16, 17, 18, 19, 20, 21, 22, 23, 24, 25, 26, 27, 28, 29]) $$ F_got_agR_1 with ⟨T160, F_got_agR_1⟩
  icases (bigSepL_pop (fun k : Fin 32 => gotAgR m c 1 k) 4 5 [6, 7, 8, 9, 10, 11, 12, 13, 14, 15, 16, 17, 18, 19, 20, 21, 22, 23, 24, 25, 26, 27, 28, 29]) $$ F_got_agR_1 with ⟨T161, F_got_agR_1⟩
  icases (bigSepL_pop (fun k : Fin 32 => gotAgR m c 1 k) 5 6 [7, 8, 9, 10, 11, 12, 13, 14, 15, 16, 17, 18, 19, 20, 21, 22, 23, 24, 25, 26, 27, 28, 29]) $$ F_got_agR_1 with ⟨T162, F_got_agR_1⟩
  icases (bigSepL_pop (fun k : Fin 32 => gotAgR m c 1 k) 6 7 [8, 9, 10, 11, 12, 13, 14, 15, 16, 17, 18, 19, 20, 21, 22, 23, 24, 25, 26, 27, 28, 29]) $$ F_got_agR_1 with ⟨T163, F_got_agR_1⟩
  icases (bigSepL_pop (fun k : Fin 32 => gotAgR m c 1 k) 7 8 [9, 10, 11, 12, 13, 14, 15, 16, 17, 18, 19, 20, 21, 22, 23, 24, 25, 26, 27, 28, 29]) $$ F_got_agR_1 with ⟨T164, F_got_agR_1⟩
  icases (bigSepL_pop (fun k : Fin 32 => gotAgR m c 1 k) 8 9 [10, 11, 12, 13, 14, 15, 16, 17, 18, 19, 20, 21, 22, 23, 24, 25, 26, 27, 28, 29]) $$ F_got_agR_1 with ⟨T165, F_got_agR_1⟩
  icases (bigSepL_pop (fun k : Fin 32 => gotAgR m c 1 k) 9 10 [11, 12, 13, 14, 15, 16, 17, 18, 19, 20, 21, 22, 23, 24, 25, 26, 27, 28, 29]) $$ F_got_agR_1 with ⟨T166, F_got_agR_1⟩
  icases (bigSepL_pop (fun k : Fin 32 => gotAgR m c 1 k) 10 11 [12, 13, 14, 15, 16, 17, 18, 19, 20, 21, 22, 23, 24, 25, 26, 27, 28, 29]) $$ F_got_agR_1 with ⟨T167, F_got_agR_1⟩
  icases (bigSepL_pop (fun k : Fin 32 => gotAgR m c 1 k) 11 12 [13, 14, 15, 16, 17, 18, 19, 20, 21, 22, 23, 24, 25, 26, 27, 28, 29]) $$ F_got_agR_1 with ⟨T168, F_got_agR_1⟩
  icases (bigSepL_pop (fun k : Fin 32 => gotAgR m c 1 k) 12 13 [14, 15, 16, 17, 18, 19, 20, 21, 22, 23, 24, 25, 26, 27, 28, 29]) $$ F_got_agR_1 with ⟨T169, F_got_agR_1⟩
  icases (bigSepL_pop (fun k : Fin 32 => gotAgR m c 1 k) 13 14 [15, 16, 17, 18, 19, 20, 21, 22, 23, 24, 25, 26, 27, 28, 29]) $$ F_got_agR_1 with ⟨T170, F_got_agR_1⟩
  icases (bigSepL_pop (fun k : Fin 32 => gotAgR m c 1 k) 14 15 [16, 17, 18, 19, 20, 21, 22, 23, 24, 25, 26, 27, 28, 29]) $$ F_got_agR_1 with ⟨T171, F_got_agR_1⟩
  icases (bigSepL_pop (fun k : Fin 32 => gotAgR m c 1 k) 15 16 [17, 18, 19, 20, 21, 22, 23, 24, 25, 26, 27, 28, 29]) $$ F_got_agR_1 with ⟨T172, F_got_agR_1⟩
  icases (bigSepL_pop (fun k : Fin 32 => gotAgR m c 1 k) 16 17 [18, 19, 20, 21, 22, 23, 24, 25, 26, 27, 28, 29]) $$ F_got_agR_1 with ⟨T173, F_got_agR_1⟩
  icases (bigSepL_pop (fun k : Fin 32 => gotAgR m c 1 k) 17 18 [19, 20, 21, 22, 23, 24, 25, 26, 27, 28, 29]) $$ F_got_agR_1 with ⟨T174, F_got_agR_1⟩
  icases (bigSepL_pop (fun k : Fin 32 => gotAgR m c 1 k) 18 19 [20, 21, 22, 23, 24, 25, 26, 27, 28, 29]) $$ F_got_agR_1 with ⟨T175, F_got_agR_1⟩
  icases (bigSepL_pop (fun k : Fin 32 => gotAgR m c 1 k) 19 20 [21, 22, 23, 24, 25, 26, 27, 28, 29]) $$ F_got_agR_1 with ⟨T176, F_got_agR_1⟩
  icases (bigSepL_pop (fun k : Fin 32 => gotAgR m c 1 k) 20 21 [22, 23, 24, 25, 26, 27, 28, 29]) $$ F_got_agR_1 with ⟨T177, F_got_agR_1⟩
  icases (bigSepL_pop (fun k : Fin 32 => gotAgR m c 1 k) 21 22 [23, 24, 25, 26, 27, 28, 29]) $$ F_got_agR_1 with ⟨T178, F_got_agR_1⟩
  icases (bigSepL_pop (fun k : Fin 32 => gotAgR m c 1 k) 22 23 [24, 25, 26, 27, 28, 29]) $$ F_got_agR_1 with ⟨T179, F_got_agR_1⟩
  icases (bigSepL_pop (fun k : Fin 32 => gotAgR m c 1 k) 23 24 [25, 26, 27, 28, 29]) $$ F_got_agR_1 with ⟨T180, F_got_agR_1⟩
  icases (bigSepL_pop (fun k : Fin 32 => gotAgR m c 1 k) 24 25 [26, 27, 28, 29]) $$ F_got_agR_1 with ⟨T181, F_got_agR_1⟩
  icases (bigSepL_pop (fun k : Fin 32 => gotAgR m c 1 k) 25 26 [27, 28, 29]) $$ F_got_agR_1 with ⟨T182, F_got_agR_1⟩
  icases (bigSepL_pop (fun k : Fin 32 => gotAgR m c 1 k) 26 27 [28, 29]) $$ F_got_agR_1 with ⟨T183, F_got_agR_1⟩
  icases (bigSepL_pop (fun k : Fin 32 => gotAgR m c 1 k) 27 28 [29]) $$ F_got_agR_1 with ⟨T184, F_got_agR_1⟩
  icases (bigSepL_pop (fun k : Fin 32 => gotAgR m c 1 k) 28 29 []) $$ F_got_agR_1 with ⟨T185, F_got_agR_1⟩
  ihave T186 := (bigSepL_one (fun k : Fin 32 => gotAgR m c 1 k) 29) $$ F_got_agR_1
  rw [wp_bind]
  iapply (part134_spec' m K c _ _ f2 (insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T154]
  · iexact T154
  isplitl [T155]
  · iexact T155
  isplitl [T156]
  · iexact T156
  isplitl []
  · iexact Hlev
  isplitl [T157]
  · iexact T157
  isplitl [T158]
  · iexact T158
  isplitl [T159]
  · iexact T159
  isplitl [T160]
  · iexact T160
  isplitl [T161]
  · iexact T161
  isplitl [T162]
  · iexact T162
  isplitl [T163]
  · iexact T163
  isplitl [T164]
  · iexact T164
  isplitl [T165]
  · iexact T165
  isplitl [T166]
  · iexact T166
  isplitl [T167]
  · iexact T167
  isplitl [T168]
  · iexact T168
  isplitl [T169]
  · iexact T169
  isplitl [T170]
  · iexact T170
  isplitl [T171]
  · iexact T171
  isplitl [T172]
  · iexact T172
  isplitl [T173]
  · iexact T173
  isplitl [T174]
  · iexact T174
  isplitl [T175]
  · iexact T175
  isplitl [T176]
  · iexact T176
  isplitl [T177]
  · iexact T177
  isplitl [T178]
  · iexact T178
  isplitl [T179]
  · iexact T179
  isplitl [T180]
  · iexact T180
  isplitl [T181]
  · iexact T181
  isplitl [T182]
  · iexact T182
  isplitl [T183]
  · iexact T183
  isplitl [T184]
  · iexact T184
  isplitl [T185]
  · iexact T185
  isplitl [T186]
  · iexact T186
  isplitl [F_stg2mid]
  · iexact F_stg2mid
  isplitl [H_owes]
  · iexact H_owes
  iintro %r ⟨P187, P188, P189, P190, P191, P192, P193, P194, P195, P196, P197, P198, P199, P200, P201, P202, P203, P204, P205, P206, P207, P208, P209, P210, P211, P212, P213, P214, P215, P216, P217, P218, P219, P220, F_stg2done, P221, P222, H_owes⟩
  try dsimp only
  ihave F_outShare0_1 := (bigSepL_wrap (fun k : Fin 32 => outShareAt m c 1 k) 0) $$ P187
  ihave F_got_agR_1 := (bigSepL_wrap (fun k : Fin 32 => gotAgR m c 1 k) 1) $$ P188
  ihave F_got_agR_1 := (bigSepL_snoc (fun k : Fin 32 => gotAgR m c 1 k) [1] 2 [1, 2] rfl) $$ [F_got_agR_1 P189]
  · isplitl [F_got_agR_1] <;> iassumption
  ihave F_got_agR_1 := (bigSepL_snoc (fun k : Fin 32 => gotAgR m c 1 k) [1, 2] 3 [1, 2, 3] rfl) $$ [F_got_agR_1 P190]
  · isplitl [F_got_agR_1] <;> iassumption
  ihave F_got_agR_1 := (bigSepL_snoc (fun k : Fin 32 => gotAgR m c 1 k) [1, 2, 3] 4 [1, 2, 3, 4] rfl) $$ [F_got_agR_1 P191]
  · isplitl [F_got_agR_1] <;> iassumption
  ihave F_got_agR_1 := (bigSepL_snoc (fun k : Fin 32 => gotAgR m c 1 k) [1, 2, 3, 4] 5 [1, 2, 3, 4, 5] rfl) $$ [F_got_agR_1 P192]
  · isplitl [F_got_agR_1] <;> iassumption
  ihave F_got_agR_1 := (bigSepL_snoc (fun k : Fin 32 => gotAgR m c 1 k) [1, 2, 3, 4, 5] 6 [1, 2, 3, 4, 5, 6] rfl) $$ [F_got_agR_1 P193]
  · isplitl [F_got_agR_1] <;> iassumption
  ihave F_got_agR_1 := (bigSepL_snoc (fun k : Fin 32 => gotAgR m c 1 k) [1, 2, 3, 4, 5, 6] 7 [1, 2, 3, 4, 5, 6, 7] rfl) $$ [F_got_agR_1 P194]
  · isplitl [F_got_agR_1] <;> iassumption
  ihave F_got_agR_1 := (bigSepL_snoc (fun k : Fin 32 => gotAgR m c 1 k) [1, 2, 3, 4, 5, 6, 7] 8 [1, 2, 3, 4, 5, 6, 7, 8] rfl) $$ [F_got_agR_1 P195]
  · isplitl [F_got_agR_1] <;> iassumption
  ihave F_got_agR_1 := (bigSepL_snoc (fun k : Fin 32 => gotAgR m c 1 k) [1, 2, 3, 4, 5, 6, 7, 8] 9 [1, 2, 3, 4, 5, 6, 7, 8, 9] rfl) $$ [F_got_agR_1 P196]
  · isplitl [F_got_agR_1] <;> iassumption
  ihave F_got_agR_1 := (bigSepL_snoc (fun k : Fin 32 => gotAgR m c 1 k) [1, 2, 3, 4, 5, 6, 7, 8, 9] 10 [1, 2, 3, 4, 5, 6, 7, 8, 9, 10] rfl) $$ [F_got_agR_1 P197]
  · isplitl [F_got_agR_1] <;> iassumption
  ihave F_got_agR_1 := (bigSepL_snoc (fun k : Fin 32 => gotAgR m c 1 k) [1, 2, 3, 4, 5, 6, 7, 8, 9, 10] 11 [1, 2, 3, 4, 5, 6, 7, 8, 9, 10, 11] rfl) $$ [F_got_agR_1 P198]
  · isplitl [F_got_agR_1] <;> iassumption
  ihave F_got_agR_1 := (bigSepL_snoc (fun k : Fin 32 => gotAgR m c 1 k) [1, 2, 3, 4, 5, 6, 7, 8, 9, 10, 11] 12 [1, 2, 3, 4, 5, 6, 7, 8, 9, 10, 11, 12] rfl) $$ [F_got_agR_1 P199]
  · isplitl [F_got_agR_1] <;> iassumption
  ihave F_got_agR_1 := (bigSepL_snoc (fun k : Fin 32 => gotAgR m c 1 k) [1, 2, 3, 4, 5, 6, 7, 8, 9, 10, 11, 12] 13 [1, 2, 3, 4, 5, 6, 7, 8, 9, 10, 11, 12, 13] rfl) $$ [F_got_agR_1 P200]
  · isplitl [F_got_agR_1] <;> iassumption
  ihave F_got_agR_1 := (bigSepL_snoc (fun k : Fin 32 => gotAgR m c 1 k) [1, 2, 3, 4, 5, 6, 7, 8, 9, 10, 11, 12, 13] 14 [1, 2, 3, 4, 5, 6, 7, 8, 9, 10, 11, 12, 13, 14] rfl) $$ [F_got_agR_1 P201]
  · isplitl [F_got_agR_1] <;> iassumption
  ihave F_got_agR_1 := (bigSepL_snoc (fun k : Fin 32 => gotAgR m c 1 k) [1, 2, 3, 4, 5, 6, 7, 8, 9, 10, 11, 12, 13, 14] 15 [1, 2, 3, 4, 5, 6, 7, 8, 9, 10, 11, 12, 13, 14, 15] rfl) $$ [F_got_agR_1 P202]
  · isplitl [F_got_agR_1] <;> iassumption
  ihave F_got_agR_1 := (bigSepL_snoc (fun k : Fin 32 => gotAgR m c 1 k) [1, 2, 3, 4, 5, 6, 7, 8, 9, 10, 11, 12, 13, 14, 15] 16 [1, 2, 3, 4, 5, 6, 7, 8, 9, 10, 11, 12, 13, 14, 15, 16] rfl) $$ [F_got_agR_1 P203]
  · isplitl [F_got_agR_1] <;> iassumption
  ihave F_got_agR_1 := (bigSepL_snoc (fun k : Fin 32 => gotAgR m c 1 k) [1, 2, 3, 4, 5, 6, 7, 8, 9, 10, 11, 12, 13, 14, 15, 16] 17 [1, 2, 3, 4, 5, 6, 7, 8, 9, 10, 11, 12, 13, 14, 15, 16, 17] rfl) $$ [F_got_agR_1 P204]
  · isplitl [F_got_agR_1] <;> iassumption
  ihave F_got_agR_1 := (bigSepL_snoc (fun k : Fin 32 => gotAgR m c 1 k) [1, 2, 3, 4, 5, 6, 7, 8, 9, 10, 11, 12, 13, 14, 15, 16, 17] 18 [1, 2, 3, 4, 5, 6, 7, 8, 9, 10, 11, 12, 13, 14, 15, 16, 17, 18] rfl) $$ [F_got_agR_1 P205]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_got_agR_1 P206]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_got_agR_1 P207]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_got_agR_1 P208]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_got_agR_1 P209]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_got_agR_1 P210]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_got_agR_1 P211]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_got_agR_1 P212]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_got_agR_1 P213]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_got_agR_1 P214]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_got_agR_1 P215]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_got_agR_1 P216]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_got_agR_1 P217]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_got_agR_1 P218]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_closed_agR_1 P219]
  · isplitl [F_closed_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_closed_agR_1 P220]
  · isplitl [F_closed_agR_1] <;> iassumption
  ihave F_got_agS_0 := (bigSepL_wrap (fun k : Fin 32 => outShareAt m c 0 k) 1) $$ P221
  ihave F_closed_agS_0 := (bigSepL_wrap (fun k : Fin 32 => closedAt m K c 0 k agS) 1) $$ P222
  -- k0_part135
  icases (bigSepL_pop (fun k : Fin 32 => recvRes m K agS c 0 k) 2 3 [4, 5, 6, 7, 8, 9, 10, 11, 12, 13, 14, 15, 16, 17, 18, 19, 20, 21, 22, 23, 24, 25, 26, 27, 28, 29, 30, 31]) $$ F_recvRes_agS_0 with ⟨T223, F_recvRes_agS_0⟩
  icases (bigSepL_pop (fun k : Fin 32 => recvRes m K agS c 0 k) 3 4 [5, 6, 7, 8, 9, 10, 11, 12, 13, 14, 15, 16, 17, 18, 19, 20, 21, 22, 23, 24, 25, 26, 27, 28, 29, 30, 31]) $$ F_recvRes_agS_0 with ⟨T224, F_recvRes_agS_0⟩
  icases (bigSepL_pop (fun k : Fin 32 => recvRes m K agS c 0 k) 4 5 [6, 7, 8, 9, 10, 11, 12, 13, 14, 15, 16, 17, 18, 19, 20, 21, 22, 23, 24, 25, 26, 27, 28, 29, 30, 31]) $$ F_recvRes_agS_0 with ⟨T225, F_recvRes_agS_0⟩
  icases (bigSepL_pop (fun k : Fin 32 => recvRes m K agS c 0 k) 5 6 [7, 8, 9, 10, 11, 12, 13, 14, 15, 16, 17, 18, 19, 20, 21, 22, 23, 24, 25, 26, 27, 28, 29, 30, 31]) $$ F_recvRes_agS_0 with ⟨T226, F_recvRes_agS_0⟩
  icases (bigSepL_pop (fun k : Fin 32 => recvRes m K agS c 0 k) 6 7 [8, 9, 10, 11, 12, 13, 14, 15, 16, 17, 18, 19, 20, 21, 22, 23, 24, 25, 26, 27, 28, 29, 30, 31]) $$ F_recvRes_agS_0 with ⟨T227, F_recvRes_agS_0⟩
  rw [wp_bind]
  iapply (part135_spec' m K c (insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T223]
  · iexact T223
  isplitl [T224]
  · iexact T224
  isplitl [T225]
  · iexact T225
  isplitl [T226]
  · iexact T226
  isplitl [T227]
  · iexact T227
  isplitl []
  · iexact Hlev
  isplitl [H_owes]
  · iexact H_owes
  iintro %r ⟨P228, P229, P230, P231, P232, P233, P234, P235, P236, P237, H_owes⟩
  try dsimp only
  ihave F_got_agS_0 := (bigSepL_snoc (fun k : Fin 32 => outShareAt m c 0 k) [1] 2 [1, 2] rfl) $$ [F_got_agS_0 P228]
  · isplitl [F_got_agS_0] <;> iassumption
  ihave F_closed_agS_0 := (bigSepL_snoc (fun k : Fin 32 => closedAt m K c 0 k agS) [1] 2 [1, 2] rfl) $$ [F_closed_agS_0 P229]
  · isplitl [F_closed_agS_0] <;> iassumption
  ihave F_got_agS_0 := (bigSepL_snoc (fun k : Fin 32 => outShareAt m c 0 k) [1, 2] 3 [1, 2, 3] rfl) $$ [F_got_agS_0 P230]
  · isplitl [F_got_agS_0] <;> iassumption
  ihave F_closed_agS_0 := (bigSepL_snoc (fun k : Fin 32 => closedAt m K c 0 k agS) [1, 2] 3 [1, 2, 3] rfl) $$ [F_closed_agS_0 P231]
  · isplitl [F_closed_agS_0] <;> iassumption
  ihave F_got_agS_0 := (bigSepL_snoc (fun k : Fin 32 => outShareAt m c 0 k) [1, 2, 3] 4 [1, 2, 3, 4] rfl) $$ [F_got_agS_0 P232]
  · isplitl [F_got_agS_0] <;> iassumption
  ihave F_closed_agS_0 := (bigSepL_snoc (fun k : Fin 32 => closedAt m K c 0 k agS) [1, 2, 3] 4 [1, 2, 3, 4] rfl) $$ [F_closed_agS_0 P233]
  · isplitl [F_closed_agS_0] <;> iassumption
  ihave F_got_agS_0 := (bigSepL_snoc (fun k : Fin 32 => outShareAt m c 0 k) [1, 2, 3, 4] 5 [1, 2, 3, 4, 5] rfl) $$ [F_got_agS_0 P234]
  · isplitl [F_got_agS_0] <;> iassumption
  ihave F_closed_agS_0 := (bigSepL_snoc (fun k : Fin 32 => closedAt m K c 0 k agS) [1, 2, 3, 4] 5 [1, 2, 3, 4, 5] rfl) $$ [F_closed_agS_0 P235]
  · isplitl [F_closed_agS_0] <;> iassumption
  ihave F_got_agS_0 := (bigSepL_snoc (fun k : Fin 32 => outShareAt m c 0 k) [1, 2, 3, 4, 5] 6 [1, 2, 3, 4, 5, 6] rfl) $$ [F_got_agS_0 P236]
  · isplitl [F_got_agS_0] <;> iassumption
  ihave F_closed_agS_0 := (bigSepL_snoc (fun k : Fin 32 => closedAt m K c 0 k agS) [1, 2, 3, 4, 5] 6 [1, 2, 3, 4, 5, 6] rfl) $$ [F_closed_agS_0 P237]
  · isplitl [F_closed_agS_0] <;> iassumption
  -- k0_part136
  icases (bigSepL_pop (fun k : Fin 32 => recvRes m K agS c 0 k) 7 8 [9, 10, 11, 12, 13, 14, 15, 16, 17, 18, 19, 20, 21, 22, 23, 24, 25, 26, 27, 28, 29, 30, 31]) $$ F_recvRes_agS_0 with ⟨T238, F_recvRes_agS_0⟩
  icases (bigSepL_pop (fun k : Fin 32 => recvRes m K agS c 0 k) 8 9 [10, 11, 12, 13, 14, 15, 16, 17, 18, 19, 20, 21, 22, 23, 24, 25, 26, 27, 28, 29, 30, 31]) $$ F_recvRes_agS_0 with ⟨T239, F_recvRes_agS_0⟩
  icases (bigSepL_pop (fun k : Fin 32 => recvRes m K agS c 0 k) 9 10 [11, 12, 13, 14, 15, 16, 17, 18, 19, 20, 21, 22, 23, 24, 25, 26, 27, 28, 29, 30, 31]) $$ F_recvRes_agS_0 with ⟨T240, F_recvRes_agS_0⟩
  icases (bigSepL_pop (fun k : Fin 32 => recvRes m K agS c 0 k) 10 11 [12, 13, 14, 15, 16, 17, 18, 19, 20, 21, 22, 23, 24, 25, 26, 27, 28, 29, 30, 31]) $$ F_recvRes_agS_0 with ⟨T241, F_recvRes_agS_0⟩
  icases (bigSepL_pop (fun k : Fin 32 => recvRes m K agS c 0 k) 11 12 [13, 14, 15, 16, 17, 18, 19, 20, 21, 22, 23, 24, 25, 26, 27, 28, 29, 30, 31]) $$ F_recvRes_agS_0 with ⟨T242, F_recvRes_agS_0⟩
  rw [wp_bind]
  iapply (part136_spec' m K c (insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T238]
  · iexact T238
  isplitl [T239]
  · iexact T239
  isplitl [T240]
  · iexact T240
  isplitl [T241]
  · iexact T241
  isplitl [T242]
  · iexact T242
  isplitl []
  · iexact Hlev
  isplitl [H_owes]
  · iexact H_owes
  iintro %r ⟨P243, P244, P245, P246, P247, P248, P249, P250, P251, P252, H_owes⟩
  try dsimp only
  ihave F_got_agS_0 := (bigSepL_snoc (fun k : Fin 32 => outShareAt m c 0 k) [1, 2, 3, 4, 5, 6] 7 [1, 2, 3, 4, 5, 6, 7] rfl) $$ [F_got_agS_0 P243]
  · isplitl [F_got_agS_0] <;> iassumption
  ihave F_closed_agS_0 := (bigSepL_snoc (fun k : Fin 32 => closedAt m K c 0 k agS) [1, 2, 3, 4, 5, 6] 7 [1, 2, 3, 4, 5, 6, 7] rfl) $$ [F_closed_agS_0 P244]
  · isplitl [F_closed_agS_0] <;> iassumption
  ihave F_got_agS_0 := (bigSepL_snoc (fun k : Fin 32 => outShareAt m c 0 k) [1, 2, 3, 4, 5, 6, 7] 8 [1, 2, 3, 4, 5, 6, 7, 8] rfl) $$ [F_got_agS_0 P245]
  · isplitl [F_got_agS_0] <;> iassumption
  ihave F_closed_agS_0 := (bigSepL_snoc (fun k : Fin 32 => closedAt m K c 0 k agS) [1, 2, 3, 4, 5, 6, 7] 8 [1, 2, 3, 4, 5, 6, 7, 8] rfl) $$ [F_closed_agS_0 P246]
  · isplitl [F_closed_agS_0] <;> iassumption
  ihave F_got_agS_0 := (bigSepL_snoc (fun k : Fin 32 => outShareAt m c 0 k) [1, 2, 3, 4, 5, 6, 7, 8] 9 [1, 2, 3, 4, 5, 6, 7, 8, 9] rfl) $$ [F_got_agS_0 P247]
  · isplitl [F_got_agS_0] <;> iassumption
  ihave F_closed_agS_0 := (bigSepL_snoc (fun k : Fin 32 => closedAt m K c 0 k agS) [1, 2, 3, 4, 5, 6, 7, 8] 9 [1, 2, 3, 4, 5, 6, 7, 8, 9] rfl) $$ [F_closed_agS_0 P248]
  · isplitl [F_closed_agS_0] <;> iassumption
  ihave F_got_agS_0 := (bigSepL_snoc (fun k : Fin 32 => outShareAt m c 0 k) [1, 2, 3, 4, 5, 6, 7, 8, 9] 10 [1, 2, 3, 4, 5, 6, 7, 8, 9, 10] rfl) $$ [F_got_agS_0 P249]
  · isplitl [F_got_agS_0] <;> iassumption
  ihave F_closed_agS_0 := (bigSepL_snoc (fun k : Fin 32 => closedAt m K c 0 k agS) [1, 2, 3, 4, 5, 6, 7, 8, 9] 10 [1, 2, 3, 4, 5, 6, 7, 8, 9, 10] rfl) $$ [F_closed_agS_0 P250]
  · isplitl [F_closed_agS_0] <;> iassumption
  ihave F_got_agS_0 := (bigSepL_snoc (fun k : Fin 32 => outShareAt m c 0 k) [1, 2, 3, 4, 5, 6, 7, 8, 9, 10] 11 [1, 2, 3, 4, 5, 6, 7, 8, 9, 10, 11] rfl) $$ [F_got_agS_0 P251]
  · isplitl [F_got_agS_0] <;> iassumption
  ihave F_closed_agS_0 := (bigSepL_snoc (fun k : Fin 32 => closedAt m K c 0 k agS) [1, 2, 3, 4, 5, 6, 7, 8, 9, 10] 11 [1, 2, 3, 4, 5, 6, 7, 8, 9, 10, 11] rfl) $$ [F_closed_agS_0 P252]
  · isplitl [F_closed_agS_0] <;> iassumption
  -- k0_part137
  icases (bigSepL_pop (fun k : Fin 32 => recvRes m K agS c 0 k) 12 13 [14, 15, 16, 17, 18, 19, 20, 21, 22, 23, 24, 25, 26, 27, 28, 29, 30, 31]) $$ F_recvRes_agS_0 with ⟨T253, F_recvRes_agS_0⟩
  icases (bigSepL_pop (fun k : Fin 32 => recvRes m K agS c 0 k) 13 14 [15, 16, 17, 18, 19, 20, 21, 22, 23, 24, 25, 26, 27, 28, 29, 30, 31]) $$ F_recvRes_agS_0 with ⟨T254, F_recvRes_agS_0⟩
  icases (bigSepL_pop (fun k : Fin 32 => recvRes m K agS c 0 k) 14 15 [16, 17, 18, 19, 20, 21, 22, 23, 24, 25, 26, 27, 28, 29, 30, 31]) $$ F_recvRes_agS_0 with ⟨T255, F_recvRes_agS_0⟩
  icases (bigSepL_pop (fun k : Fin 32 => recvRes m K agS c 0 k) 15 16 [17, 18, 19, 20, 21, 22, 23, 24, 25, 26, 27, 28, 29, 30, 31]) $$ F_recvRes_agS_0 with ⟨T256, F_recvRes_agS_0⟩
  icases (bigSepL_pop (fun k : Fin 32 => recvRes m K agS c 0 k) 16 17 [18, 19, 20, 21, 22, 23, 24, 25, 26, 27, 28, 29, 30, 31]) $$ F_recvRes_agS_0 with ⟨T257, F_recvRes_agS_0⟩
  rw [wp_bind]
  iapply (part137_spec' m K c (insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T253]
  · iexact T253
  isplitl [T254]
  · iexact T254
  isplitl [T255]
  · iexact T255
  isplitl [T256]
  · iexact T256
  isplitl [T257]
  · iexact T257
  isplitl []
  · iexact Hlev
  isplitl [H_owes]
  · iexact H_owes
  iintro %r ⟨P258, P259, P260, P261, P262, P263, P264, P265, P266, P267, H_owes⟩
  try dsimp only
  ihave F_got_agS_0 := (bigSepL_snoc (fun k : Fin 32 => outShareAt m c 0 k) [1, 2, 3, 4, 5, 6, 7, 8, 9, 10, 11] 12 [1, 2, 3, 4, 5, 6, 7, 8, 9, 10, 11, 12] rfl) $$ [F_got_agS_0 P258]
  · isplitl [F_got_agS_0] <;> iassumption
  ihave F_closed_agS_0 := (bigSepL_snoc (fun k : Fin 32 => closedAt m K c 0 k agS) [1, 2, 3, 4, 5, 6, 7, 8, 9, 10, 11] 12 [1, 2, 3, 4, 5, 6, 7, 8, 9, 10, 11, 12] rfl) $$ [F_closed_agS_0 P259]
  · isplitl [F_closed_agS_0] <;> iassumption
  ihave F_got_agS_0 := (bigSepL_snoc (fun k : Fin 32 => outShareAt m c 0 k) [1, 2, 3, 4, 5, 6, 7, 8, 9, 10, 11, 12] 13 [1, 2, 3, 4, 5, 6, 7, 8, 9, 10, 11, 12, 13] rfl) $$ [F_got_agS_0 P260]
  · isplitl [F_got_agS_0] <;> iassumption
  ihave F_closed_agS_0 := (bigSepL_snoc (fun k : Fin 32 => closedAt m K c 0 k agS) [1, 2, 3, 4, 5, 6, 7, 8, 9, 10, 11, 12] 13 [1, 2, 3, 4, 5, 6, 7, 8, 9, 10, 11, 12, 13] rfl) $$ [F_closed_agS_0 P261]
  · isplitl [F_closed_agS_0] <;> iassumption
  ihave F_got_agS_0 := (bigSepL_snoc (fun k : Fin 32 => outShareAt m c 0 k) [1, 2, 3, 4, 5, 6, 7, 8, 9, 10, 11, 12, 13] 14 [1, 2, 3, 4, 5, 6, 7, 8, 9, 10, 11, 12, 13, 14] rfl) $$ [F_got_agS_0 P262]
  · isplitl [F_got_agS_0] <;> iassumption
  ihave F_closed_agS_0 := (bigSepL_snoc (fun k : Fin 32 => closedAt m K c 0 k agS) [1, 2, 3, 4, 5, 6, 7, 8, 9, 10, 11, 12, 13] 14 [1, 2, 3, 4, 5, 6, 7, 8, 9, 10, 11, 12, 13, 14] rfl) $$ [F_closed_agS_0 P263]
  · isplitl [F_closed_agS_0] <;> iassumption
  ihave F_got_agS_0 := (bigSepL_snoc (fun k : Fin 32 => outShareAt m c 0 k) [1, 2, 3, 4, 5, 6, 7, 8, 9, 10, 11, 12, 13, 14] 15 [1, 2, 3, 4, 5, 6, 7, 8, 9, 10, 11, 12, 13, 14, 15] rfl) $$ [F_got_agS_0 P264]
  · isplitl [F_got_agS_0] <;> iassumption
  ihave F_closed_agS_0 := (bigSepL_snoc (fun k : Fin 32 => closedAt m K c 0 k agS) [1, 2, 3, 4, 5, 6, 7, 8, 9, 10, 11, 12, 13, 14] 15 [1, 2, 3, 4, 5, 6, 7, 8, 9, 10, 11, 12, 13, 14, 15] rfl) $$ [F_closed_agS_0 P265]
  · isplitl [F_closed_agS_0] <;> iassumption
  ihave F_got_agS_0 := (bigSepL_snoc (fun k : Fin 32 => outShareAt m c 0 k) [1, 2, 3, 4, 5, 6, 7, 8, 9, 10, 11, 12, 13, 14, 15] 16 [1, 2, 3, 4, 5, 6, 7, 8, 9, 10, 11, 12, 13, 14, 15, 16] rfl) $$ [F_got_agS_0 P266]
  · isplitl [F_got_agS_0] <;> iassumption
  ihave F_closed_agS_0 := (bigSepL_snoc (fun k : Fin 32 => closedAt m K c 0 k agS) [1, 2, 3, 4, 5, 6, 7, 8, 9, 10, 11, 12, 13, 14, 15] 16 [1, 2, 3, 4, 5, 6, 7, 8, 9, 10, 11, 12, 13, 14, 15, 16] rfl) $$ [F_closed_agS_0 P267]
  · isplitl [F_closed_agS_0] <;> iassumption
  -- k0_part138
  icases (bigSepL_pop (fun k : Fin 32 => recvRes m K agS c 0 k) 17 18 [19, 20, 21, 22, 23, 24, 25, 26, 27, 28, 29, 30, 31]) $$ F_recvRes_agS_0 with ⟨T268, F_recvRes_agS_0⟩
  icases (bigSepL_pop (fun k : Fin 32 => recvRes m K agS c 0 k) 18 19 [20, 21, 22, 23, 24, 25, 26, 27, 28, 29, 30, 31]) $$ F_recvRes_agS_0 with ⟨T269, F_recvRes_agS_0⟩
  icases (bigSepL_pop (fun k : Fin 32 => recvRes m K agS c 0 k) 19 20 [21, 22, 23, 24, 25, 26, 27, 28, 29, 30, 31]) $$ F_recvRes_agS_0 with ⟨T270, F_recvRes_agS_0⟩
  icases (bigSepL_pop (fun k : Fin 32 => recvRes m K agS c 0 k) 20 21 [22, 23, 24, 25, 26, 27, 28, 29, 30, 31]) $$ F_recvRes_agS_0 with ⟨T271, F_recvRes_agS_0⟩
  icases (bigSepL_pop (fun k : Fin 32 => recvRes m K agS c 0 k) 21 22 [23, 24, 25, 26, 27, 28, 29, 30, 31]) $$ F_recvRes_agS_0 with ⟨T272, F_recvRes_agS_0⟩
  rw [wp_bind]
  iapply (part138_spec' m K c (insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T268]
  · iexact T268
  isplitl [T269]
  · iexact T269
  isplitl [T270]
  · iexact T270
  isplitl [T271]
  · iexact T271
  isplitl [T272]
  · iexact T272
  isplitl []
  · iexact Hlev
  isplitl [H_owes]
  · iexact H_owes
  iintro %r ⟨P273, P274, P275, P276, P277, P278, P279, P280, P281, P282, H_owes⟩
  try dsimp only
  ihave F_got_agS_0 := (bigSepL_snoc (fun k : Fin 32 => outShareAt m c 0 k) [1, 2, 3, 4, 5, 6, 7, 8, 9, 10, 11, 12, 13, 14, 15, 16] 17 [1, 2, 3, 4, 5, 6, 7, 8, 9, 10, 11, 12, 13, 14, 15, 16, 17] rfl) $$ [F_got_agS_0 P273]
  · isplitl [F_got_agS_0] <;> iassumption
  ihave F_closed_agS_0 := (bigSepL_snoc (fun k : Fin 32 => closedAt m K c 0 k agS) [1, 2, 3, 4, 5, 6, 7, 8, 9, 10, 11, 12, 13, 14, 15, 16] 17 [1, 2, 3, 4, 5, 6, 7, 8, 9, 10, 11, 12, 13, 14, 15, 16, 17] rfl) $$ [F_closed_agS_0 P274]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17] 18 [1, 2, 3, 4, 5, 6, 7, 8, 9, 10, 11, 12, 13, 14, 15, 16, 17, 18] rfl) $$ [F_got_agS_0 P275]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17] 18 [1, 2, 3, 4, 5, 6, 7, 8, 9, 10, 11, 12, 13, 14, 15, 16, 17, 18] rfl) $$ [F_closed_agS_0 P276]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_got_agS_0 P277]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_closed_agS_0 P278]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_got_agS_0 P279]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_closed_agS_0 P280]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_got_agS_0 P281]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_closed_agS_0 P282]
  · isplitl [F_closed_agS_0] <;> iassumption
  -- k0_part139
  icases (bigSepL_pop (fun k : Fin 32 => recvRes m K agS c 0 k) 22 23 [24, 25, 26, 27, 28, 29, 30, 31]) $$ F_recvRes_agS_0 with ⟨T283, F_recvRes_agS_0⟩
  icases (bigSepL_pop (fun k : Fin 32 => recvRes m K agS c 0 k) 23 24 [25, 26, 27, 28, 29, 30, 31]) $$ F_recvRes_agS_0 with ⟨T284, F_recvRes_agS_0⟩
  icases (bigSepL_pop (fun k : Fin 32 => recvRes m K agS c 0 k) 24 25 [26, 27, 28, 29, 30, 31]) $$ F_recvRes_agS_0 with ⟨T285, F_recvRes_agS_0⟩
  icases (bigSepL_pop (fun k : Fin 32 => recvRes m K agS c 0 k) 25 26 [27, 28, 29, 30, 31]) $$ F_recvRes_agS_0 with ⟨T286, F_recvRes_agS_0⟩
  icases (bigSepL_pop (fun k : Fin 32 => recvRes m K agS c 0 k) 26 27 [28, 29, 30, 31]) $$ F_recvRes_agS_0 with ⟨T287, F_recvRes_agS_0⟩
  rw [wp_bind]
  iapply (part139_spec' m K c (insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T283]
  · iexact T283
  isplitl [T284]
  · iexact T284
  isplitl [T285]
  · iexact T285
  isplitl [T286]
  · iexact T286
  isplitl [T287]
  · iexact T287
  isplitl []
  · iexact Hlev
  isplitl [H_owes]
  · iexact H_owes
  iintro %r ⟨P288, P289, P290, P291, P292, P293, P294, P295, P296, P297, H_owes⟩
  try dsimp only
  ihave F_got_agS_0 := (bigSepL_snoc (fun k : Fin 32 => outShareAt m c 0 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_got_agS_0 P288]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_closed_agS_0 P289]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_got_agS_0 P290]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_closed_agS_0 P291]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_got_agS_0 P292]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_closed_agS_0 P293]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_got_agS_0 P294]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_closed_agS_0 P295]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_got_agS_0 P296]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_closed_agS_0 P297]
  · isplitl [F_closed_agS_0] <;> iassumption
  -- k0_part140
  icases (bigSepL_pop (fun k : Fin 32 => recvRes m K agS c 0 k) 27 28 [29, 30, 31]) $$ F_recvRes_agS_0 with ⟨T298, F_recvRes_agS_0⟩
  icases (bigSepL_pop (fun k : Fin 32 => recvRes m K agS c 0 k) 28 29 [30, 31]) $$ F_recvRes_agS_0 with ⟨T299, F_recvRes_agS_0⟩
  icases (bigSepL_pop (fun k : Fin 32 => recvRes m K agS c 0 k) 29 30 [31]) $$ F_recvRes_agS_0 with ⟨T300, F_recvRes_agS_0⟩
  icases (bigSepL_pop (fun k : Fin 32 => recvRes m K agS c 0 k) 30 31 []) $$ F_recvRes_agS_0 with ⟨T301, F_recvRes_agS_0⟩
  ihave T302 := (bigSepL_one (fun k : Fin 32 => recvRes m K agS c 0 k) 31) $$ F_recvRes_agS_0
  rw [wp_bind]
  iapply (part140_spec' m K c (insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T298]
  · iexact T298
  isplitl [T299]
  · iexact T299
  isplitl [T300]
  · iexact T300
  isplitl [T301]
  · iexact T301
  isplitl [T302]
  · iexact T302
  isplitl []
  · iexact Hlev
  isplitl [H_owes]
  · iexact H_owes
  iintro %r ⟨P303, P304, P305, P306, P307, P308, P309, P310, P311, P312, H_owes⟩
  try dsimp only
  ihave F_got_agS_0 := (bigSepL_snoc (fun k : Fin 32 => outShareAt m c 0 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_got_agS_0 P303]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_closed_agS_0 P304]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_got_agS_0 P305]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_closed_agS_0 P306]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_got_agS_0 P307]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_closed_agS_0 P308]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_got_agS_0 P309]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_closed_agS_0 P310]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_got_agS_0 P311]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_closed_agS_0 P312]
  · isplitl [F_closed_agS_0] <;> iassumption
  -- k0_part141
  icases (bigSepL_pop (fun k : Fin 32 => recvRes m K agS c 1 k) 1 2 [3, 4, 5, 6, 7, 8, 9, 10, 11, 12, 13, 14, 15, 16, 17, 18, 19, 20, 21, 22, 23, 24, 25, 26, 27, 28, 29, 30, 31]) $$ F_recvRes_agS_1 with ⟨T313, F_recvRes_agS_1⟩
  icases (bigSepL_pop (fun k : Fin 32 => recvRes m K agS c 1 k) 2 3 [4, 5, 6, 7, 8, 9, 10, 11, 12, 13, 14, 15, 16, 17, 18, 19, 20, 21, 22, 23, 24, 25, 26, 27, 28, 29, 30, 31]) $$ F_recvRes_agS_1 with ⟨T314, F_recvRes_agS_1⟩
  icases (bigSepL_pop (fun k : Fin 32 => recvRes m K agS c 1 k) 3 4 [5, 6, 7, 8, 9, 10, 11, 12, 13, 14, 15, 16, 17, 18, 19, 20, 21, 22, 23, 24, 25, 26, 27, 28, 29, 30, 31]) $$ F_recvRes_agS_1 with ⟨T315, F_recvRes_agS_1⟩
  icases (bigSepL_pop (fun k : Fin 32 => recvRes m K agS c 1 k) 4 5 [6, 7, 8, 9, 10, 11, 12, 13, 14, 15, 16, 17, 18, 19, 20, 21, 22, 23, 24, 25, 26, 27, 28, 29, 30, 31]) $$ F_recvRes_agS_1 with ⟨T316, F_recvRes_agS_1⟩
  icases (bigSepL_pop (fun k : Fin 32 => recvRes m K agS c 1 k) 5 6 [7, 8, 9, 10, 11, 12, 13, 14, 15, 16, 17, 18, 19, 20, 21, 22, 23, 24, 25, 26, 27, 28, 29, 30, 31]) $$ F_recvRes_agS_1 with ⟨T317, F_recvRes_agS_1⟩
  rw [wp_bind]
  iapply (part141_spec' m K c (insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) ((insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T313]
  · iexact T313
  isplitl [T314]
  · iexact T314
  isplitl [T315]
  · iexact T315
  isplitl [T316]
  · iexact T316
  isplitl [T317]
  · iexact T317
  isplitl []
  · iexact Hlev
  isplitl [H_owes]
  · iexact H_owes
  iintro %r ⟨P318, P319, P320, P321, P322, P323, P324, P325, P326, P327, H_owes⟩
  try dsimp only
  ihave F_got_agS_1 := (bigSepL_wrap (fun k : Fin 32 => outShareAt m c 1 k) 1) $$ P318
  ihave F_closed_agS_1 := (bigSepL_wrap (fun k : Fin 32 => closedAt m K c 1 k agS) 1) $$ P319
  ihave F_got_agS_1 := (bigSepL_snoc (fun k : Fin 32 => outShareAt m c 1 k) [1] 2 [1, 2] rfl) $$ [F_got_agS_1 P320]
  · isplitl [F_got_agS_1] <;> iassumption
  ihave F_closed_agS_1 := (bigSepL_snoc (fun k : Fin 32 => closedAt m K c 1 k agS) [1] 2 [1, 2] rfl) $$ [F_closed_agS_1 P321]
  · isplitl [F_closed_agS_1] <;> iassumption
  ihave F_got_agS_1 := (bigSepL_snoc (fun k : Fin 32 => outShareAt m c 1 k) [1, 2] 3 [1, 2, 3] rfl) $$ [F_got_agS_1 P322]
  · isplitl [F_got_agS_1] <;> iassumption
  ihave F_closed_agS_1 := (bigSepL_snoc (fun k : Fin 32 => closedAt m K c 1 k agS) [1, 2] 3 [1, 2, 3] rfl) $$ [F_closed_agS_1 P323]
  · isplitl [F_closed_agS_1] <;> iassumption
  ihave F_got_agS_1 := (bigSepL_snoc (fun k : Fin 32 => outShareAt m c 1 k) [1, 2, 3] 4 [1, 2, 3, 4] rfl) $$ [F_got_agS_1 P324]
  · isplitl [F_got_agS_1] <;> iassumption
  ihave F_closed_agS_1 := (bigSepL_snoc (fun k : Fin 32 => closedAt m K c 1 k agS) [1, 2, 3] 4 [1, 2, 3, 4] rfl) $$ [F_closed_agS_1 P325]
  · isplitl [F_closed_agS_1] <;> iassumption
  ihave F_got_agS_1 := (bigSepL_snoc (fun k : Fin 32 => outShareAt m c 1 k) [1, 2, 3, 4] 5 [1, 2, 3, 4, 5] rfl) $$ [F_got_agS_1 P326]
  · isplitl [F_got_agS_1] <;> iassumption
  ihave F_closed_agS_1 := (bigSepL_snoc (fun k : Fin 32 => closedAt m K c 1 k agS) [1, 2, 3, 4] 5 [1, 2, 3, 4, 5] rfl) $$ [F_closed_agS_1 P327]
  · isplitl [F_closed_agS_1] <;> iassumption
  -- k0_part142
  icases (bigSepL_pop (fun k : Fin 32 => recvRes m K agS c 1 k) 6 7 [8, 9, 10, 11, 12, 13, 14, 15, 16, 17, 18, 19, 20, 21, 22, 23, 24, 25, 26, 27, 28, 29, 30, 31]) $$ F_recvRes_agS_1 with ⟨T328, F_recvRes_agS_1⟩
  icases (bigSepL_pop (fun k : Fin 32 => recvRes m K agS c 1 k) 7 8 [9, 10, 11, 12, 13, 14, 15, 16, 17, 18, 19, 20, 21, 22, 23, 24, 25, 26, 27, 28, 29, 30, 31]) $$ F_recvRes_agS_1 with ⟨T329, F_recvRes_agS_1⟩
  icases (bigSepL_pop (fun k : Fin 32 => recvRes m K agS c 1 k) 8 9 [10, 11, 12, 13, 14, 15, 16, 17, 18, 19, 20, 21, 22, 23, 24, 25, 26, 27, 28, 29, 30, 31]) $$ F_recvRes_agS_1 with ⟨T330, F_recvRes_agS_1⟩
  icases (bigSepL_pop (fun k : Fin 32 => recvRes m K agS c 1 k) 9 10 [11, 12, 13, 14, 15, 16, 17, 18, 19, 20, 21, 22, 23, 24, 25, 26, 27, 28, 29, 30, 31]) $$ F_recvRes_agS_1 with ⟨T331, F_recvRes_agS_1⟩
  icases (bigSepL_pop (fun k : Fin 32 => recvRes m K agS c 1 k) 10 11 [12, 13, 14, 15, 16, 17, 18, 19, 20, 21, 22, 23, 24, 25, 26, 27, 28, 29, 30, 31]) $$ F_recvRes_agS_1 with ⟨T332, F_recvRes_agS_1⟩
  rw [wp_bind]
  iapply (part142_spec' m K c (insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) ((insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) ((insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T328]
  · iexact T328
  isplitl [T329]
  · iexact T329
  isplitl [T330]
  · iexact T330
  isplitl [T331]
  · iexact T331
  isplitl [T332]
  · iexact T332
  isplitl []
  · iexact Hlev
  isplitl [H_owes]
  · iexact H_owes
  iintro %r ⟨P333, P334, P335, P336, P337, P338, P339, P340, P341, P342, H_owes⟩
  try dsimp only
  ihave F_got_agS_1 := (bigSepL_snoc (fun k : Fin 32 => outShareAt m c 1 k) [1, 2, 3, 4, 5] 6 [1, 2, 3, 4, 5, 6] rfl) $$ [F_got_agS_1 P333]
  · isplitl [F_got_agS_1] <;> iassumption
  ihave F_closed_agS_1 := (bigSepL_snoc (fun k : Fin 32 => closedAt m K c 1 k agS) [1, 2, 3, 4, 5] 6 [1, 2, 3, 4, 5, 6] rfl) $$ [F_closed_agS_1 P334]
  · isplitl [F_closed_agS_1] <;> iassumption
  ihave F_got_agS_1 := (bigSepL_snoc (fun k : Fin 32 => outShareAt m c 1 k) [1, 2, 3, 4, 5, 6] 7 [1, 2, 3, 4, 5, 6, 7] rfl) $$ [F_got_agS_1 P335]
  · isplitl [F_got_agS_1] <;> iassumption
  ihave F_closed_agS_1 := (bigSepL_snoc (fun k : Fin 32 => closedAt m K c 1 k agS) [1, 2, 3, 4, 5, 6] 7 [1, 2, 3, 4, 5, 6, 7] rfl) $$ [F_closed_agS_1 P336]
  · isplitl [F_closed_agS_1] <;> iassumption
  ihave F_got_agS_1 := (bigSepL_snoc (fun k : Fin 32 => outShareAt m c 1 k) [1, 2, 3, 4, 5, 6, 7] 8 [1, 2, 3, 4, 5, 6, 7, 8] rfl) $$ [F_got_agS_1 P337]
  · isplitl [F_got_agS_1] <;> iassumption
  ihave F_closed_agS_1 := (bigSepL_snoc (fun k : Fin 32 => closedAt m K c 1 k agS) [1, 2, 3, 4, 5, 6, 7] 8 [1, 2, 3, 4, 5, 6, 7, 8] rfl) $$ [F_closed_agS_1 P338]
  · isplitl [F_closed_agS_1] <;> iassumption
  ihave F_got_agS_1 := (bigSepL_snoc (fun k : Fin 32 => outShareAt m c 1 k) [1, 2, 3, 4, 5, 6, 7, 8] 9 [1, 2, 3, 4, 5, 6, 7, 8, 9] rfl) $$ [F_got_agS_1 P339]
  · isplitl [F_got_agS_1] <;> iassumption
  ihave F_closed_agS_1 := (bigSepL_snoc (fun k : Fin 32 => closedAt m K c 1 k agS) [1, 2, 3, 4, 5, 6, 7, 8] 9 [1, 2, 3, 4, 5, 6, 7, 8, 9] rfl) $$ [F_closed_agS_1 P340]
  · isplitl [F_closed_agS_1] <;> iassumption
  ihave F_got_agS_1 := (bigSepL_snoc (fun k : Fin 32 => outShareAt m c 1 k) [1, 2, 3, 4, 5, 6, 7, 8, 9] 10 [1, 2, 3, 4, 5, 6, 7, 8, 9, 10] rfl) $$ [F_got_agS_1 P341]
  · isplitl [F_got_agS_1] <;> iassumption
  ihave F_closed_agS_1 := (bigSepL_snoc (fun k : Fin 32 => closedAt m K c 1 k agS) [1, 2, 3, 4, 5, 6, 7, 8, 9] 10 [1, 2, 3, 4, 5, 6, 7, 8, 9, 10] rfl) $$ [F_closed_agS_1 P342]
  · isplitl [F_closed_agS_1] <;> iassumption
  -- k0_part143
  icases (bigSepL_pop (fun k : Fin 32 => recvRes m K agS c 1 k) 11 12 [13, 14, 15, 16, 17, 18, 19, 20, 21, 22, 23, 24, 25, 26, 27, 28, 29, 30, 31]) $$ F_recvRes_agS_1 with ⟨T343, F_recvRes_agS_1⟩
  icases (bigSepL_pop (fun k : Fin 32 => recvRes m K agS c 1 k) 12 13 [14, 15, 16, 17, 18, 19, 20, 21, 22, 23, 24, 25, 26, 27, 28, 29, 30, 31]) $$ F_recvRes_agS_1 with ⟨T344, F_recvRes_agS_1⟩
  icases (bigSepL_pop (fun k : Fin 32 => recvRes m K agS c 1 k) 13 14 [15, 16, 17, 18, 19, 20, 21, 22, 23, 24, 25, 26, 27, 28, 29, 30, 31]) $$ F_recvRes_agS_1 with ⟨T345, F_recvRes_agS_1⟩
  icases (bigSepL_pop (fun k : Fin 32 => recvRes m K agS c 1 k) 14 15 [16, 17, 18, 19, 20, 21, 22, 23, 24, 25, 26, 27, 28, 29, 30, 31]) $$ F_recvRes_agS_1 with ⟨T346, F_recvRes_agS_1⟩
  icases (bigSepL_pop (fun k : Fin 32 => recvRes m K agS c 1 k) 15 16 [17, 18, 19, 20, 21, 22, 23, 24, 25, 26, 27, 28, 29, 30, 31]) $$ F_recvRes_agS_1 with ⟨T347, F_recvRes_agS_1⟩
  rw [wp_bind]
  iapply (part143_spec' m K c (insert (SemLoc.dma (semAt (arr agS) 1 10), ()) (insert (SemLoc.dma (semAt (arr agS) 1 9), ()) (insert (SemLoc.dma (semAt (arr agS) 1 8), ()) (insert (SemLoc.dma (semAt (arr agS) 1 7), ()) (insert (SemLoc.dma (semAt (arr agS) 1 6), ()) ((insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) ((insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) ((insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T343]
  · iexact T343
  isplitl [T344]
  · iexact T344
  isplitl [T345]
  · iexact T345
  isplitl [T346]
  · iexact T346
  isplitl [T347]
  · iexact T347
  isplitl []
  · iexact Hlev
  isplitl [H_owes]
  · iexact H_owes
  iintro %r ⟨P348, P349, P350, P351, P352, P353, P354, P355, P356, P357, H_owes⟩
  try dsimp only
  ihave F_got_agS_1 := (bigSepL_snoc (fun k : Fin 32 => outShareAt m c 1 k) [1, 2, 3, 4, 5, 6, 7, 8, 9, 10] 11 [1, 2, 3, 4, 5, 6, 7, 8, 9, 10, 11] rfl) $$ [F_got_agS_1 P348]
  · isplitl [F_got_agS_1] <;> iassumption
  ihave F_closed_agS_1 := (bigSepL_snoc (fun k : Fin 32 => closedAt m K c 1 k agS) [1, 2, 3, 4, 5, 6, 7, 8, 9, 10] 11 [1, 2, 3, 4, 5, 6, 7, 8, 9, 10, 11] rfl) $$ [F_closed_agS_1 P349]
  · isplitl [F_closed_agS_1] <;> iassumption
  ihave F_got_agS_1 := (bigSepL_snoc (fun k : Fin 32 => outShareAt m c 1 k) [1, 2, 3, 4, 5, 6, 7, 8, 9, 10, 11] 12 [1, 2, 3, 4, 5, 6, 7, 8, 9, 10, 11, 12] rfl) $$ [F_got_agS_1 P350]
  · isplitl [F_got_agS_1] <;> iassumption
  ihave F_closed_agS_1 := (bigSepL_snoc (fun k : Fin 32 => closedAt m K c 1 k agS) [1, 2, 3, 4, 5, 6, 7, 8, 9, 10, 11] 12 [1, 2, 3, 4, 5, 6, 7, 8, 9, 10, 11, 12] rfl) $$ [F_closed_agS_1 P351]
  · isplitl [F_closed_agS_1] <;> iassumption
  ihave F_got_agS_1 := (bigSepL_snoc (fun k : Fin 32 => outShareAt m c 1 k) [1, 2, 3, 4, 5, 6, 7, 8, 9, 10, 11, 12] 13 [1, 2, 3, 4, 5, 6, 7, 8, 9, 10, 11, 12, 13] rfl) $$ [F_got_agS_1 P352]
  · isplitl [F_got_agS_1] <;> iassumption
  ihave F_closed_agS_1 := (bigSepL_snoc (fun k : Fin 32 => closedAt m K c 1 k agS) [1, 2, 3, 4, 5, 6, 7, 8, 9, 10, 11, 12] 13 [1, 2, 3, 4, 5, 6, 7, 8, 9, 10, 11, 12, 13] rfl) $$ [F_closed_agS_1 P353]
  · isplitl [F_closed_agS_1] <;> iassumption
  ihave F_got_agS_1 := (bigSepL_snoc (fun k : Fin 32 => outShareAt m c 1 k) [1, 2, 3, 4, 5, 6, 7, 8, 9, 10, 11, 12, 13] 14 [1, 2, 3, 4, 5, 6, 7, 8, 9, 10, 11, 12, 13, 14] rfl) $$ [F_got_agS_1 P354]
  · isplitl [F_got_agS_1] <;> iassumption
  ihave F_closed_agS_1 := (bigSepL_snoc (fun k : Fin 32 => closedAt m K c 1 k agS) [1, 2, 3, 4, 5, 6, 7, 8, 9, 10, 11, 12, 13] 14 [1, 2, 3, 4, 5, 6, 7, 8, 9, 10, 11, 12, 13, 14] rfl) $$ [F_closed_agS_1 P355]
  · isplitl [F_closed_agS_1] <;> iassumption
  ihave F_got_agS_1 := (bigSepL_snoc (fun k : Fin 32 => outShareAt m c 1 k) [1, 2, 3, 4, 5, 6, 7, 8, 9, 10, 11, 12, 13, 14] 15 [1, 2, 3, 4, 5, 6, 7, 8, 9, 10, 11, 12, 13, 14, 15] rfl) $$ [F_got_agS_1 P356]
  · isplitl [F_got_agS_1] <;> iassumption
  ihave F_closed_agS_1 := (bigSepL_snoc (fun k : Fin 32 => closedAt m K c 1 k agS) [1, 2, 3, 4, 5, 6, 7, 8, 9, 10, 11, 12, 13, 14] 15 [1, 2, 3, 4, 5, 6, 7, 8, 9, 10, 11, 12, 13, 14, 15] rfl) $$ [F_closed_agS_1 P357]
  · isplitl [F_closed_agS_1] <;> iassumption
  -- k0_part144
  icases (bigSepL_pop (fun k : Fin 32 => recvRes m K agS c 1 k) 16 17 [18, 19, 20, 21, 22, 23, 24, 25, 26, 27, 28, 29, 30, 31]) $$ F_recvRes_agS_1 with ⟨T358, F_recvRes_agS_1⟩
  icases (bigSepL_pop (fun k : Fin 32 => recvRes m K agS c 1 k) 17 18 [19, 20, 21, 22, 23, 24, 25, 26, 27, 28, 29, 30, 31]) $$ F_recvRes_agS_1 with ⟨T359, F_recvRes_agS_1⟩
  icases (bigSepL_pop (fun k : Fin 32 => recvRes m K agS c 1 k) 18 19 [20, 21, 22, 23, 24, 25, 26, 27, 28, 29, 30, 31]) $$ F_recvRes_agS_1 with ⟨T360, F_recvRes_agS_1⟩
  icases (bigSepL_pop (fun k : Fin 32 => recvRes m K agS c 1 k) 19 20 [21, 22, 23, 24, 25, 26, 27, 28, 29, 30, 31]) $$ F_recvRes_agS_1 with ⟨T361, F_recvRes_agS_1⟩
  icases (bigSepL_pop (fun k : Fin 32 => recvRes m K agS c 1 k) 20 21 [22, 23, 24, 25, 26, 27, 28, 29, 30, 31]) $$ F_recvRes_agS_1 with ⟨T362, F_recvRes_agS_1⟩
  rw [wp_bind]
  iapply (part144_spec' m K c (insert (SemLoc.dma (semAt (arr agS) 1 15), ()) (insert (SemLoc.dma (semAt (arr agS) 1 14), ()) (insert (SemLoc.dma (semAt (arr agS) 1 13), ()) (insert (SemLoc.dma (semAt (arr agS) 1 12), ()) (insert (SemLoc.dma (semAt (arr agS) 1 11), ()) ((insert (SemLoc.dma (semAt (arr agS) 1 10), ()) (insert (SemLoc.dma (semAt (arr agS) 1 9), ()) (insert (SemLoc.dma (semAt (arr agS) 1 8), ()) (insert (SemLoc.dma (semAt (arr agS) 1 7), ()) (insert (SemLoc.dma (semAt (arr agS) 1 6), ()) ((insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) ((insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) ((insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T358]
  · iexact T358
  isplitl [T359]
  · iexact T359
  isplitl [T360]
  · iexact T360
  isplitl [T361]
  · iexact T361
  isplitl [T362]
  · iexact T362
  isplitl []
  · iexact Hlev
  isplitl [H_owes]
  · iexact H_owes
  iintro %r ⟨P363, P364, P365, P366, P367, P368, P369, P370, P371, P372, H_owes⟩
  try dsimp only
  ihave F_got_agS_1 := (bigSepL_snoc (fun k : Fin 32 => outShareAt m c 1 k) [1, 2, 3, 4, 5, 6, 7, 8, 9, 10, 11, 12, 13, 14, 15] 16 [1, 2, 3, 4, 5, 6, 7, 8, 9, 10, 11, 12, 13, 14, 15, 16] rfl) $$ [F_got_agS_1 P363]
  · isplitl [F_got_agS_1] <;> iassumption
  ihave F_closed_agS_1 := (bigSepL_snoc (fun k : Fin 32 => closedAt m K c 1 k agS) [1, 2, 3, 4, 5, 6, 7, 8, 9, 10, 11, 12, 13, 14, 15] 16 [1, 2, 3, 4, 5, 6, 7, 8, 9, 10, 11, 12, 13, 14, 15, 16] rfl) $$ [F_closed_agS_1 P364]
  · isplitl [F_closed_agS_1] <;> iassumption
  ihave F_got_agS_1 := (bigSepL_snoc (fun k : Fin 32 => outShareAt m c 1 k) [1, 2, 3, 4, 5, 6, 7, 8, 9, 10, 11, 12, 13, 14, 15, 16] 17 [1, 2, 3, 4, 5, 6, 7, 8, 9, 10, 11, 12, 13, 14, 15, 16, 17] rfl) $$ [F_got_agS_1 P365]
  · isplitl [F_got_agS_1] <;> iassumption
  ihave F_closed_agS_1 := (bigSepL_snoc (fun k : Fin 32 => closedAt m K c 1 k agS) [1, 2, 3, 4, 5, 6, 7, 8, 9, 10, 11, 12, 13, 14, 15, 16] 17 [1, 2, 3, 4, 5, 6, 7, 8, 9, 10, 11, 12, 13, 14, 15, 16, 17] rfl) $$ [F_closed_agS_1 P366]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17] 18 [1, 2, 3, 4, 5, 6, 7, 8, 9, 10, 11, 12, 13, 14, 15, 16, 17, 18] rfl) $$ [F_got_agS_1 P367]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17] 18 [1, 2, 3, 4, 5, 6, 7, 8, 9, 10, 11, 12, 13, 14, 15, 16, 17, 18] rfl) $$ [F_closed_agS_1 P368]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_got_agS_1 P369]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_closed_agS_1 P370]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_got_agS_1 P371]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_closed_agS_1 P372]
  · isplitl [F_closed_agS_1] <;> iassumption
  -- k0_part145
  icases (bigSepL_pop (fun k : Fin 32 => recvRes m K agS c 1 k) 21 22 [23, 24, 25, 26, 27, 28, 29, 30, 31]) $$ F_recvRes_agS_1 with ⟨T373, F_recvRes_agS_1⟩
  icases (bigSepL_pop (fun k : Fin 32 => recvRes m K agS c 1 k) 22 23 [24, 25, 26, 27, 28, 29, 30, 31]) $$ F_recvRes_agS_1 with ⟨T374, F_recvRes_agS_1⟩
  icases (bigSepL_pop (fun k : Fin 32 => recvRes m K agS c 1 k) 23 24 [25, 26, 27, 28, 29, 30, 31]) $$ F_recvRes_agS_1 with ⟨T375, F_recvRes_agS_1⟩
  icases (bigSepL_pop (fun k : Fin 32 => recvRes m K agS c 1 k) 24 25 [26, 27, 28, 29, 30, 31]) $$ F_recvRes_agS_1 with ⟨T376, F_recvRes_agS_1⟩
  icases (bigSepL_pop (fun k : Fin 32 => recvRes m K agS c 1 k) 25 26 [27, 28, 29, 30, 31]) $$ F_recvRes_agS_1 with ⟨T377, F_recvRes_agS_1⟩
  rw [wp_bind]
  iapply (part145_spec' m K c (insert (SemLoc.dma (semAt (arr agS) 1 20), ()) (insert (SemLoc.dma (semAt (arr agS) 1 19), ()) (insert (SemLoc.dma (semAt (arr agS) 1 18), ()) (insert (SemLoc.dma (semAt (arr agS) 1 17), ()) (insert (SemLoc.dma (semAt (arr agS) 1 16), ()) ((insert (SemLoc.dma (semAt (arr agS) 1 15), ()) (insert (SemLoc.dma (semAt (arr agS) 1 14), ()) (insert (SemLoc.dma (semAt (arr agS) 1 13), ()) (insert (SemLoc.dma (semAt (arr agS) 1 12), ()) (insert (SemLoc.dma (semAt (arr agS) 1 11), ()) ((insert (SemLoc.dma (semAt (arr agS) 1 10), ()) (insert (SemLoc.dma (semAt (arr agS) 1 9), ()) (insert (SemLoc.dma (semAt (arr agS) 1 8), ()) (insert (SemLoc.dma (semAt (arr agS) 1 7), ()) (insert (SemLoc.dma (semAt (arr agS) 1 6), ()) ((insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) ((insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) ((insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T373]
  · iexact T373
  isplitl [T374]
  · iexact T374
  isplitl [T375]
  · iexact T375
  isplitl [T376]
  · iexact T376
  isplitl [T377]
  · iexact T377
  isplitl []
  · iexact Hlev
  isplitl [H_owes]
  · iexact H_owes
  iintro %r ⟨P378, P379, P380, P381, P382, P383, P384, P385, P386, P387, H_owes⟩
  try dsimp only
  ihave F_got_agS_1 := (bigSepL_snoc (fun k : Fin 32 => outShareAt m c 1 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_got_agS_1 P378]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_closed_agS_1 P379]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_got_agS_1 P380]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_closed_agS_1 P381]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_got_agS_1 P382]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_closed_agS_1 P383]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_got_agS_1 P384]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_closed_agS_1 P385]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_got_agS_1 P386]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_closed_agS_1 P387]
  · isplitl [F_closed_agS_1] <;> iassumption
  -- k0_part146
  icases (bigSepL_pop (fun k : Fin 32 => recvRes m K agS c 1 k) 26 27 [28, 29, 30, 31]) $$ F_recvRes_agS_1 with ⟨T388, F_recvRes_agS_1⟩
  icases (bigSepL_pop (fun k : Fin 32 => recvRes m K agS c 1 k) 27 28 [29, 30, 31]) $$ F_recvRes_agS_1 with ⟨T389, F_recvRes_agS_1⟩
  icases (bigSepL_pop (fun k : Fin 32 => recvRes m K agS c 1 k) 28 29 [30, 31]) $$ F_recvRes_agS_1 with ⟨T390, F_recvRes_agS_1⟩
  icases (bigSepL_pop (fun k : Fin 32 => recvRes m K agS c 1 k) 29 30 [31]) $$ F_recvRes_agS_1 with ⟨T391, F_recvRes_agS_1⟩
  icases (bigSepL_pop (fun k : Fin 32 => recvRes m K agS c 1 k) 30 31 []) $$ F_recvRes_agS_1 with ⟨T392, F_recvRes_agS_1⟩
  rw [wp_bind]
  iapply (part146_spec' m K c (insert (SemLoc.dma (semAt (arr agS) 1 25), ()) (insert (SemLoc.dma (semAt (arr agS) 1 24), ()) (insert (SemLoc.dma (semAt (arr agS) 1 23), ()) (insert (SemLoc.dma (semAt (arr agS) 1 22), ()) (insert (SemLoc.dma (semAt (arr agS) 1 21), ()) ((insert (SemLoc.dma (semAt (arr agS) 1 20), ()) (insert (SemLoc.dma (semAt (arr agS) 1 19), ()) (insert (SemLoc.dma (semAt (arr agS) 1 18), ()) (insert (SemLoc.dma (semAt (arr agS) 1 17), ()) (insert (SemLoc.dma (semAt (arr agS) 1 16), ()) ((insert (SemLoc.dma (semAt (arr agS) 1 15), ()) (insert (SemLoc.dma (semAt (arr agS) 1 14), ()) (insert (SemLoc.dma (semAt (arr agS) 1 13), ()) (insert (SemLoc.dma (semAt (arr agS) 1 12), ()) (insert (SemLoc.dma (semAt (arr agS) 1 11), ()) ((insert (SemLoc.dma (semAt (arr agS) 1 10), ()) (insert (SemLoc.dma (semAt (arr agS) 1 9), ()) (insert (SemLoc.dma (semAt (arr agS) 1 8), ()) (insert (SemLoc.dma (semAt (arr agS) 1 7), ()) (insert (SemLoc.dma (semAt (arr agS) 1 6), ()) ((insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) ((insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) ((insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T388]
  · iexact T388
  isplitl [T389]
  · iexact T389
  isplitl [T390]
  · iexact T390
  isplitl [T391]
  · iexact T391
  isplitl [T392]
  · iexact T392
  isplitl []
  · iexact Hlev
  isplitl [H_owes]
  · iexact H_owes
  iintro %r ⟨P393, P394, P395, P396, P397, P398, P399, P400, P401, P402, H_owes⟩
  try dsimp only
  ihave F_got_agS_1 := (bigSepL_snoc (fun k : Fin 32 => outShareAt m c 1 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_got_agS_1 P393]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_closed_agS_1 P394]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_got_agS_1 P395]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_closed_agS_1 P396]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_got_agS_1 P397]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_closed_agS_1 P398]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_got_agS_1 P399]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_closed_agS_1 P400]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_got_agS_1 P401]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_closed_agS_1 P402]
  · isplitl [F_closed_agS_1] <;> iassumption
  -- the last wait
  ihave Tt := (bigSepL_one (fun k : Fin 32 => recvRes m K agS c 1 k) 31) $$ F_recvRes_agS_1
  rw [wp_bind]
  iapply (tail_spec m K c (insert (SemLoc.dma (semAt (arr agS) 1 30), ()) (insert (SemLoc.dma (semAt (arr agS) 1 29), ()) (insert (SemLoc.dma (semAt (arr agS) 1 28), ()) (insert (SemLoc.dma (semAt (arr agS) 1 27), ()) (insert (SemLoc.dma (semAt (arr agS) 1 26), ()) ((insert (SemLoc.dma (semAt (arr agS) 1 25), ()) (insert (SemLoc.dma (semAt (arr agS) 1 24), ()) (insert (SemLoc.dma (semAt (arr agS) 1 23), ()) (insert (SemLoc.dma (semAt (arr agS) 1 22), ()) (insert (SemLoc.dma (semAt (arr agS) 1 21), ()) ((insert (SemLoc.dma (semAt (arr agS) 1 20), ()) (insert (SemLoc.dma (semAt (arr agS) 1 19), ()) (insert (SemLoc.dma (semAt (arr agS) 1 18), ()) (insert (SemLoc.dma (semAt (arr agS) 1 17), ()) (insert (SemLoc.dma (semAt (arr agS) 1 16), ()) ((insert (SemLoc.dma (semAt (arr agS) 1 15), ()) (insert (SemLoc.dma (semAt (arr agS) 1 14), ()) (insert (SemLoc.dma (semAt (arr agS) 1 13), ()) (insert (SemLoc.dma (semAt (arr agS) 1 12), ()) (insert (SemLoc.dma (semAt (arr agS) 1 11), ()) ((insert (SemLoc.dma (semAt (arr agS) 1 10), ()) (insert (SemLoc.dma (semAt (arr agS) 1 9), ()) (insert (SemLoc.dma (semAt (arr agS) 1 8), ()) (insert (SemLoc.dma (semAt (arr agS) 1 7), ()) (insert (SemLoc.dma (semAt (arr agS) 1 6), ()) ((insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) ((insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) ((insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [Tt]
  · iexact Tt
  isplitl []
  · iexact Hlev
  isplitl [H_owes]
  · iexact H_owes
  iintro %r ⟨Pt1, Pt2, H_owes⟩
  try dsimp only
  ihave F_got_agS_1 := (bigSepL_snoc (fun k : Fin 32 => outShareAt m c 1 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_got_agS_1 Pt1]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_closed_agS_1 Pt2]
  · isplitl [F_closed_agS_1] <;> iassumption
  -- the epilogue: own pieces out of their lists, the cells closed, the buffers rejoined
  rw [wp_pure]
  icases (bigSepL_pop (fun k : Fin 32 => gotRsR m c 0 k) 0 1 [2, 3, 4, 5, 6, 7, 8, 9, 10, 11, 12, 13, 14, 15, 16, 17, 18, 19, 20, 21, 22, 23, 24, 25, 26, 27, 28, 29, 30, 31]) $$ F_got_rsR_0 with ⟨S00, F_got_rsR_0⟩
  icases (bigSepL_pop (fun k : Fin 32 => gotRsR m c 1 k) 0 1 [2, 3, 4, 5, 6, 7, 8, 9, 10, 11, 12, 13, 14, 15, 16, 17, 18, 19, 20, 21, 22, 23, 24, 25, 26, 27, 28, 29, 30, 31]) $$ F_got_rsR_1 with ⟨S10, F_got_rsR_1⟩
  ihave S00' := (got_slotEx m c 0 0) $$ S00
  ihave S10' := (got_slotEx m c 1 0) $$ S10
  ihave A00 := (bigSepL_one (fun k : Fin 32 => accSrcAt m c 0 k) 0) $$ F_accSrc0_0
  ihave A10 := (bigSepL_one (fun k : Fin 32 => accSrcAt m c 1 k) 0) $$ F_accSrc0_1
  ihave O00 := (bigSepL_one (fun k : Fin 32 => outShareAt m c 0 k) 0) $$ F_outShare0_0
  ihave O10 := (bigSepL_one (fun k : Fin 32 => outShareAt m c 1 k) 0) $$ F_outShare0_1
  rw [← ks_eq, owed_end c]
  imod (close_fam m K c rsS 0) $$ F_closed_rsS_0 with Z00
  imod (close_fam m K c rsS 1) $$ F_closed_rsS_1 with Z01
  imod (close_fam m K c rsR 0) $$ F_closed_rsR_0 with Z10
  imod (close_fam m K c rsR 1) $$ F_closed_rsR_1 with Z11
  imod (close_fam m K c agS 0) $$ F_closed_agS_0 with Z20
  imod (close_fam m K c agS 1) $$ F_closed_agS_1 with Z21
  imod (close_fam m K c agR 0) $$ F_closed_agR_0 with Z30
  imod (close_fam m K c agR 1) $$ F_closed_agR_1 with Z31
  ihave Hsc2 := (buf_rejoin m c) $$ [S00' F_got_rsR_0 S10' F_got_rsR_1]
  · isplitl [S00' F_got_rsR_0]
    · isplitl [S00'] <;> iassumption
    isplitl [S10'] <;> iassumption
  ihave Hsc0 := (acc_rejoin m c) $$ [A00 F_got_rsS_0 A10 F_got_rsS_1]
  · isplitl [A00 F_got_rsS_0]
    · isplitl [A00] <;> iassumption
    isplitl [A10] <;> iassumption
  ihave Hsc1 := (out_rejoin m c) $$ [O00 F_got_agS_0 F_got_agR_0 O10 F_got_agS_1 F_got_agR_1]
  · isplitl [O00 F_got_agS_0 F_got_agR_0]
    · isplitl [O00 F_got_agS_0]
      · isplitl [O00] <;> iassumption
      iassumption
    isplitl [O10 F_got_agS_1]
    · isplitl [O10] <;> iassumption
    iassumption
  imodintro
  iapply Hk $$ %(insert (SemLoc.dma (semAt (arr agS) 1 31), ()) (insert (SemLoc.dma (semAt (arr agS) 1 30), ()) (insert (SemLoc.dma (semAt (arr agS) 1 29), ()) (insert (SemLoc.dma (semAt (arr agS) 1 28), ()) (insert (SemLoc.dma (semAt (arr agS) 1 27), ()) (insert (SemLoc.dma (semAt (arr agS) 1 26), ()) ((insert (SemLoc.dma (semAt (arr agS) 1 25), ()) (insert (SemLoc.dma (semAt (arr agS) 1 24), ()) (insert (SemLoc.dma (semAt (arr agS) 1 23), ()) (insert (SemLoc.dma (semAt (arr agS) 1 22), ()) (insert (SemLoc.dma (semAt (arr agS) 1 21), ()) ((insert (SemLoc.dma (semAt (arr agS) 1 20), ()) (insert (SemLoc.dma (semAt (arr agS) 1 19), ()) (insert (SemLoc.dma (semAt (arr agS) 1 18), ()) (insert (SemLoc.dma (semAt (arr agS) 1 17), ()) (insert (SemLoc.dma (semAt (arr agS) 1 16), ()) ((insert (SemLoc.dma (semAt (arr agS) 1 15), ()) (insert (SemLoc.dma (semAt (arr agS) 1 14), ()) (insert (SemLoc.dma (semAt (arr agS) 1 13), ()) (insert (SemLoc.dma (semAt (arr agS) 1 12), ()) (insert (SemLoc.dma (semAt (arr agS) 1 11), ()) ((insert (SemLoc.dma (semAt (arr agS) 1 10), ()) (insert (SemLoc.dma (semAt (arr agS) 1 9), ()) (insert (SemLoc.dma (semAt (arr agS) 1 8), ()) (insert (SemLoc.dma (semAt (arr agS) 1 7), ()) (insert (SemLoc.dma (semAt (arr agS) 1 6), ()) ((insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) ((insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) ((insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  unfold Φ₁ usedSems
  isplitl [Hsc0 Hsc1 Hsc2 Z00 Z01 Z10 Z11 Z20 Z21 Z30 Z31 F_idle]
  · isplitl [Hsc0]
    · iexact Hsc0
    isplitl [Hsc1]
    · iexact Hsc1
    isplitl [Hsc2]
    · iexact Hsc2
    isplitl [Z00 Z01 Z10 Z11 Z20 Z21 Z30 Z31]
    · isplitl [Z00]
      · iexact Z00
      isplitl [Z01]
      · iexact Z01
      isplitl [Z10]
      · iexact Z10
      isplitl [Z11]
      · iexact Z11
      isplitl [Z20]
      · iexact Z20
      isplitl [Z21]
      · iexact Z21
      isplitl [Z30]
      · iexact Z30
      iexact Z31
    iexact F_idle
  isplitl [H_owes]
  · iexact H_owes
  isplitl [F_stgX]
  · iexact F_stgX
  isplitl [F_stgW]
  · iexact F_stgW
  iexact F_stg2done

end Cert.KernelIdeal.AllReduce

end
-- ==== Proof.Word.Protocol.lean ====
/-
  The all-reduce protocol of the K-split product, written down once for all 32 devices.

  Ring arithmetic: `fwd c k` is the device k places after c, `bwd c k` the device k places before it.
  Device c's k-th signal and its copies of offset k go to `fwd c k`; what lands on c at offset k comes from `bwd c k`.
  Cells of device c: the barrier cell (31 unit duties, duty k paid by `bwd c k`), and for each half h and offset
  k = 1..31 a send and a receive cell of the reduce phase and a send and a receive cell of the gather phase, one duty
  each, of the credit of one 32x512 chunk.
-/
import proofs.«900438_g7700000000000439_dist_gemm_ar_m1024_k1024_n1024_f32_gelu_v7x_i32_1_alg».proof.Proof.Gen.Kernel
import proofs.«900438_g7700000000000439_dist_gemm_ar_m1024_k1024_n1024_f32_gelu_v7x_i32_1_alg».proof.Proof.Gen.Kernel.Skeleton
import proofs.«900438_g7700000000000439_dist_gemm_ar_m1024_k1024_n1024_f32_gelu_v7x_i32_1_alg».proof.Proof.Gen.Kernel.Launch
import proofs.«900438_g7700000000000439_dist_gemm_ar_m1024_k1024_n1024_f32_gelu_v7x_i32_1_alg».proof.Proof.Gen.Kernel.Frame
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix4)

variable {F : FTy → Type} [FloatOps F]

/-! ## The resource algebra: the pipeline's own copy (duties `Unit`) beside the protocol's (duties `Fin 32`) -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring of 32 -/

def fwd (c : Dev nD) (k : Fin 32) : Dev nD := ⟨(c.val + k.val) % 32, Nat.mod_lt _ (by decide)⟩
def bwd (c : Dev nD) (k : Fin 32) : Dev nD := ⟨(c.val + 32 - k.val) % 32, Nat.mod_lt _ (by decide)⟩

theorem bwd_fwd : ∀ (c : Dev nD) (k : Fin 32), bwd (fwd c k) k = c := by decide +kernel
theorem fwd_bwd : ∀ (c : Dev nD) (k : Fin 32), fwd (bwd c k) k = c := by decide +kernel
theorem fwd_zero : ∀ c : Dev nD, fwd c 0 = c := by decide +kernel
theorem bwd_zero : ∀ c : Dev nD, bwd c 0 = c := by decide +kernel
/-- The offset at which `c` sees the device that sees `c` at offset `k`. -/
def opp (k : Fin 32) : Fin 32 := ⟨(32 - k.val) % 32, Nat.mod_lt _ (by decide)⟩
theorem fwd_opp : ∀ (c : Dev nD) (k : Fin 32), fwd c (opp k) = bwd c k := by decide +kernel
theorem bwd_opp : ∀ (c : Dev nD) (k : Fin 32), bwd c (opp k) = fwd c k := by decide +kernel
theorem fwd_inj : ∀ (c : Dev nD) (k k' : Fin 32), fwd c k = fwd c k' → k = k' := by decide +kernel
theorem fwd_ne_self : ∀ (c : Dev nD) (k : Fin 32), k ≠ 0 → fwd c k ≠ c := by decide +kernel

/-! ## Semaphores and cells -/

/-- The runtime's barrier semaphore of this collective (not scoped to the launch). -/
abbrev barS : Sem sig := (SemArray.scalar (sig.barrier 0 rfl) : Sems sig S_).sem

theorem inb_hk (h : Fin 2) (k : Fin 32) : ∀ a, (![h.val, k.val] : Fin 2 → Nat) a + S1x1.size a ≤ S2x32.size a := by
  revert h k; decide +kernel

/-- Entry (h, k) of one of the four 2x32 semaphore arrays, spelt as the kernel slices it. -/
def semAt (A : DmaSems sig S2x32) (h : Fin 2) (k : Fin 32) : DmaSem sig :=
  ((A.slice (Rect.unit (s := S2x32) ![h.val, k.val] S1x1.size (inb_hk h k))).squeeze S_ squeezes_S1x1_S_).sem

/-- The four arrays, numbered: 0 the sends and 1 the receives of the reduce phase, 2 the sends and 3 the receives of
    the gather phase. -/
abbrev Phase : Type := Fin 4
abbrev rsS : Phase := 0
abbrev rsR : Phase := 1
abbrev agS : Phase := 2
abbrev agR : Phase := 3

def arr : Phase → DmaSems sig S2x32
  | 0 => cc0_scratch3 | 1 => cc0_scratch4 | 2 => cc0_scratch5 | 3 => cc0_scratch6

/-- The arrays are consecutive: entry (h, k) of array p is semaphore 3 + 64 p + 32 h + k. -/
theorem semAt_val : ∀ (p : Phase) (h : Fin 2) (k : Fin 32),
    (semAt (arr p) h k).val = 3 + 64 * p.val + 32 * h.val + k.val := by
  decide +kernel

abbrev barCell (c : Dev nD) : GSem nD τ sig := ((c : Thread nD τ), .reg barS)
abbrev dmaCell (c : Dev nD) (p : Phase) (h : Fin 2) (k : Fin 32) : GSem nD τ sig := ((c : Thread nD τ), .dma (semAt (arr p) h k))

/-- Which array entry a semaphore is, if it is one of the 256. -/
def semIdx : SemLoc sig → Option (Phase × Fin 2 × Fin 32)
  | .dma q => if h : 3 ≤ q.val ∧ q.val < 259 then
      some (⟨(q.val - 3) / 64, by omega⟩, ⟨(q.val - 3) % 64 / 32, by omega⟩, ⟨(q.val - 3) % 32, by omega⟩) else none
  | _ => none

theorem semIdx_semAt : ∀ (p : Phase) (h : Fin 2) (k : Fin 32), semIdx (.dma (semAt (arr p) h k)) = some (p, h, k) := by
  decide +kernel

/-! ## The buffers and their chunks -/

/-- The partial product, the gather buffer, the receive slots. -/
abbrev accM : Memref sig .tc .vmem S1024x1024 .bf16 := Memref.whole cc0_scratch0
abbrev outM : Memref sig .tc .vmem S1024x1024 .bf16 := Memref.whole cc0_scratch1
abbrev bufM : Memref sig .tc .vmem S2x32x32x512 .bf16 := Memref.whole cc0_scratch2

theorem inb_chunk : ∀ (d : Dev nD) (h : Fin 2) (a : Fin 2), (![32 * d.val, 512 * h.val] : Fin 2 → Nat) a + S32x512.size a ≤ S1024x1024.size a := by
  decide +kernel
theorem inb_slot : ∀ (h : Fin 2) (s : Fin 32) (a : Fin 4), (![h.val, s.val, 0, 0] : Fin 4 → Nat) a + S1x1x32x512.size a ≤ S2x32x32x512.size a := by
  decide +kernel

/-- Rows 32d..32d+31, the 512 columns of half h, of a 1024x1024 buffer. -/
def chunk (M : Memref sig .tc .vmem S1024x1024 .bf16) (d : Dev nD) (h : Fin 2) : Memref sig .tc .vmem S32x512 .bf16 :=
  M.slice (Rect.unit (s := S1024x1024) ![32 * d.val, 512 * h.val] S32x512.size (inb_chunk d h)) (fun _ => rfl)

/-- Slot s of half h of the receive buffer, as a 32x512 block. -/
def slot (h : Fin 2) (s : Fin 32) : Memref sig .tc .vmem S32x512 .bf16 :=
  (bufM.slice (Rect.unit (s := S2x32x32x512) ![h.val, s.val, 0, 0] S1x1x32x512.size (inb_slot h s)) (fun _ => rfl)).squeeze S32x512 squeezes_S1x1x32x512_S32x512

/-- The credit of one 32x512 chunk. -/
abbrev Nc : ℕ := (slot 0 1).view.dmaCredit
theorem Nc_pos : 0 < Nc := View.dmaCredit_pos _ (by decide)

/-! ## Contents, as functions of the launch memory alone -/

variable (m : (ℓ : Loc nD τ sig) → Buf (Elt F) ℓ)

/-- Device d's staged slabs: 32 columns of X, 32 rows of W. -/
def xIn (d : Dev nD) : Vec F S1024x32 .f32 := Gen.iblk m d 0 t0_0
def wIn (d : Dev nD) : Vec F S32x1024 .f32 := Gen.iblk m d 1 t0_0

/-- Device d's partial product, half h. -/
def part (d : Dev nD) (h : Fin 2) : FVec F S1024x512 .bf16 :=
  if h = 0 then k0_pay3 (xIn m d) (wIn m d) else k0_pay5 (k0_pay1 (xIn m d)) (k0_pay2 (wIn m d))

/-- Row r of chunk c. -/
def rowOf (c : Dev nD) (r : Fin 32) : Fin 1024 := ⟨32 * c.val + r.val, by have := c.isLt; have := r.isLt; simp only [nD] at *; omega⟩

/-- Row chunk c of device d's partial product, half h: what d sends to c. -/
def sent (d c : Dev nD) (h : Fin 2) : Vec F S32x512 .bf16 := fun i => part m d h (ix2 (rowOf c (i 0)) (i 1))

/-- Slot s of device c, half h, once its chunk has landed: it came from `bwd c s` (slot 0 is c's own). -/
def slotVal (c : Dev nD) (h : Fin 2) (s : Fin 32) : Vec F S32x512 .bf16 := sent m (bwd c s) c h

/-- All 32 slots of half h. -/
def halfVal (c : Dev nD) (h : Fin 2) : Vec F S1x32x32x512 .bf16 := fun j => slotVal m c h (j 1) (ix2 (j 2) (j 3))

/-- The reduced chunk of device c, half h, after GELU. -/
def reduced (c : Dev nD) (h : Fin 2) : FVec F S32x512 .bf16 :=
  if h = 0 then k0_pay7 (halfVal m c 0) else k0_pay11 (k0_pay9 (halfVal m c 1)) (k0_pay10 (halfVal m c 1))

/-- Half h of the gather buffer once every chunk has landed: the same on every device. -/
def gathered (h : Fin 2) : Vec F S1024x512 .bf16 := fun i =>
  reduced m ⟨(i 0).val / 32, by have h0 : (i 0).val < 1024 := (i 0).isLt; simp only [nD]; omega⟩ h (ix2 ⟨(i 0).val % 32, Nat.mod_lt _ (by decide)⟩ (i 1))

/-- The result array: the two halves widened. -/
def result : Vec F S1024x1024 .f32 := fun i =>
  if hlt : (i 1).val < 512 then k0_pay12 (gathered m 0) (ix2 (i 0) ⟨(i 1).val, hlt⟩)
  else k0_pay13 (gathered m 1) (ix2 (i 0) ⟨(i 1).val - 512, by have h1 : (i 1).val < 1024 := (i 1).isLt; omega⟩)

/-! ## Shares: one source chunk is read by 31 gather copies at once -/

/-- The right half of the full share after n further halvings to the right. -/
def restShare : ℕ → PosShare TreeShare
  | 0 => fullShare.right
  | n + 1 => (restShare n).right
/-- The device keeps the left half of its own gather rows (offset 0) for its widening load; the right half is dealt to
    the 31 gather copies: offset k, 1 ≤ k ≤ 30, gets the left half of what is left after k − 1 of them, offset 31 the
    remainder. -/
def shr (k : Fin 32) : PosShare TreeShare :=
  if k = 0 then fullShare.left else if k = 31 then restShare 30 else (restShare (k.val - 1)).left

/-! ## The schedule -/

/-- What the signal of `bwd c d` (duty d of c's barrier cell) hands c: the slots and gather rows of that device which c's
    copies will fill, and that its receive cells stand at round 0. -/
def barPay (c : Dev nD) (d : Fin 32) : sProp 𝕄 :=
  iprop((∃ f, (slot 0 (opp d)).view.loc (bwd c d : Thread nD τ) ↦[(slot 0 (opp d)).view.set]{fullShare} f)
    ∗ (∃ f, (slot 1 (opp d)).view.loc (bwd c d : Thread nD τ) ↦[(slot 1 (opp d)).view.set]{fullShare} f)
    ∗ (∃ f, (chunk outM c 0).view.loc (bwd c d : Thread nD τ) ↦[(chunk outM c 0).view.set]{fullShare} f)
    ∗ (∃ f, (chunk outM c 1).view.loc (bwd c d : Thread nD τ) ↦[(chunk outM c 1).view.set]{fullShare} f)
    ∗ reached ER (dmaCell (bwd c d) rsR 0 (opp d)) 0 ∗ reached ER (dmaCell (bwd c d) rsR 1 (opp d)) 0
    ∗ reached ER (dmaCell (bwd c d) agR 0 (opp d)) 0 ∗ reached ER (dmaCell (bwd c d) agR 1 (opp d)) 0)

/-- What the one duty of a chunk cell hands its owner c. -/
def dmaPay (c : Dev nD) (p : Phase) (h : Fin 2) (k : Fin 32) : sProp 𝕄 :=
  match p with
  | 0 => (chunk accM (fwd c k) h).view.loc (c : Thread nD τ) ↦[(chunk accM (fwd c k) h).view.set]{fullShare} (chunk accM (fwd c k) h).view.rep (sent m c (fwd c k) h)
  | 1 => (slot h k).view.loc (c : Thread nD τ) ↦[(slot h k).view.set]{fullShare} (slot h k).view.rep (sent m (bwd c k) c h)
  | 2 => (chunk outM c h).view.loc (c : Thread nD τ) ↦[(chunk outM c h).view.set]{shr k} (chunk outM c h).view.rep (reduced m c h)
  | 3 => (chunk outM (bwd c k) h).view.loc (c : Thread nD τ) ↦[(chunk outM (bwd c k) h).view.set]{fullShare} (chunk outM (bwd c k) h).view.rep (reduced m (bwd c k) h)

/-- One round. A barrier cell has the 31 unit duties 1..31; chunk cell (p, h, k), k ≥ 1, the one duty 0 of a chunk's credit. -/
def sched : Rounds.Schedule (GSem nD τ sig) (Fin 32) 𝕄 where
  duties g r :=
    if r = 0 ∧ g.1.2 = .tc then
      (if g.2 = .reg barS then Finset.univ.erase 0
       else match semIdx g.2 with
        | some (_, _, k) => if k = 0 then ∅ else {0}
        | none => ∅)
    else ∅
  unitless _ := False
  amount g _ _ := if g.2 = .reg barS then 1 else Nc
  payload g _ d :=
    if g.2 = .reg barS then barPay g.1.1 d
    else match semIdx g.2 with
      | some (p, h, k) => dmaPay m g.1.1 p h k
      | none => iprop(emp)
  amount_pos g _ _ _ := by
    by_cases h : g.2 = .reg barS
    · rw [if_pos h]; exact Nat.one_pos
    · rw [if_neg h]; exact Nc_pos

/-! ## The schedule's tables -/

section Tables
variable (c : Dev nD)

theorem dma_ne_bar (q : DmaSem sig) : (SemLoc.dma q : SemLoc sig) ≠ .reg barS := fun h => by cases h

theorem duties_bar : (sched (F := F) m).duties (barCell c) 0 = Finset.univ.erase 0 := by
  dsimp only [sched]; rw [if_pos ⟨rfl, rfl⟩, if_pos rfl]
theorem duties_dma (p : Phase) (h : Fin 2) (k : Fin 32) (hk : k ≠ 0) : (sched (F := F) m).duties (dmaCell c p h k) 0 = {0} := by
  dsimp only [sched]; rw [if_pos ⟨rfl, rfl⟩, if_neg (dma_ne_bar _), semIdx_semAt]; exact if_neg hk
theorem duties_later (g : GSem nD τ sig) : ∀ r, 1 ≤ r → (sched (F := F) m).duties g r = ∅ :=
  fun r hr => by dsimp only [sched]; rw [if_neg fun h => by omega]
theorem amount_bar (d : Fin 32) : (sched (F := F) m).amount (barCell c) 0 d = 1 := by dsimp only [sched]; exact if_pos rfl
theorem amount_dma (p : Phase) (h : Fin 2) (k : Fin 32) (d : Fin 32) : (sched (F := F) m).amount (dmaCell c p h k) 0 d = Nc := by
  dsimp only [sched]; exact if_neg (dma_ne_bar _)
theorem expect_bar : (sched (F := F) m).expect (barCell c) 0 = 31 := by
  unfold Schedule.expect Schedule.amountOf
  rw [duties_bar, Finset.sum_congr rfl fun d _ => amount_bar m c d, Finset.sum_const, smul_eq_mul, mul_one]; decide
theorem expect_dma (p : Phase) (h : Fin 2) (k : Fin 32) (hk : k ≠ 0) : (sched (F := F) m).expect (dmaCell c p h k) 0 = Nc := by
  unfold Schedule.expect Schedule.amountOf; rw [duties_dma m c p h k hk, Finset.sum_singleton, amount_dma]
theorem payload_bar (d : Fin 32) : (sched (F := F) m).payload (barCell c) 0 d = barPay c d := by dsimp only [sched]; exact if_pos rfl
theorem payload_dma (p : Phase) (h : Fin 2) (k : Fin 32) (d : Fin 32) : (sched (F := F) m).payload (dmaCell c p h k) 0 d = dmaPay m c p h k := by
  dsimp only [sched]; rw [if_neg (dma_ne_bar _), semIdx_semAt]

end Tables

instance sched_payload_storable (g : GSem nD τ sig) (r : ℕ) (d : Fin 32) :
    BI.Storable (upEmb : UEmb _ 𝕄) ((sched (F := F) m).payload g r d) := by
  show BI.Storable upEmb (if g.2 = .reg barS then barPay g.1.1 d else match semIdx g.2 with
      | some (p, h, k) => dmaPay m g.1.1 p h k
      | none => iprop(emp))
  split
  · unfold barPay; infer_instance
  · split
    · next p h k _ => unfold dmaPay; split <;> infer_instance
    · infer_instance

/-! ## What a device owes at launch, in the order it pays -/

/-- The offsets 1..31, in the order the kernel unrolls them. -/
def ks : List (Fin 32) := [1, 2, 3, 4, 5, 6, 7, 8, 9, 10, 11, 12, 13, 14, 15, 16, 17, 18, 19, 20, 21, 22, 23, 24, 25, 26, 27, 28, 29, 30, 31]

/-- Device c's payments to other devices' cells, in program order: its 31 signals, then per half its 31 reduce copies,
    then per half its 31 gather copies (each owes the DESTINATION's receive cell one chunk's credit). -/
def payList (c : Dev nD) : List (GSem nD τ sig × ℕ) :=
  ks.map (fun k => (barCell (fwd c k), 1))
  ++ ks.map (fun k => (dmaCell (fwd c k) rsR 0 k, Nc)) ++ ks.map (fun k => (dmaCell (fwd c k) rsR 1 k, Nc))
  ++ ks.map (fun k => (dmaCell (fwd c k) agR 0 k, Nc)) ++ ks.map (fun k => (dmaCell (fwd c k) agR 1 k, Nc))

/-- The tallies of a list of payments, the FIRST payment the LAST summand (so that each payment peels one). -/
def owedOf : List (GSem nD τ sig × ℕ) → CellTallies nD τ sig Unit
  | [] => 0
  | p :: l => owedOf l + tallyAt p.1 () p.2

theorem owedOf_cons (p : GSem nD τ sig × ℕ) (l : List (GSem nD τ sig × ℕ)) : owedOf (p :: l) = owedOf l + tallyAt p.1 () p.2 := rfl

def O₀ (c : Dev nD) : CellTallies nD τ sig Unit := owedOf (payList c)

/-! ## Levels: a wait sits below everything the waiter still owes -/

def L (g : GSem nD τ sig) : Finset Unit := if g.1.2 = .tc then {()} else ∅
/-- Staging and send cells 0; barrier cells 1; receive cells of the reduce phase 2; of the gather phase 3. -/
def lv (g : GSem nD τ sig) (_ : Unit) : ℕ :=
  if g.2 = .reg barS then 1 else match semIdx g.2 with
    | some (p, _, _) => if p = rsR then 2 else if p = agR then 3 else 0
    | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_dma (c : Dev nD) (p : Phase) (h : Fin 2) (k : Fin 32) :
    lv (dmaCell c p h k) () = if p = rsR then 2 else if p = agR then 3 else 0 := by
  unfold lv; rw [if_neg (dma_ne_bar _), semIdx_semAt]

end Cert.Kernel.AllReduce

end
-- ==== Proof.Word.Ghost.lean ====
/-
  The ghost state of one device of the all-reduce, bundled by the phase that consumes it, and the proof data of the
  launch: what the device holds when its body starts (Φ₀), what it hands back when the body ends (Φ₁), and what its
  three staging buffers hold after the body (the two input slabs unchanged, the result array).
-/
import proofs.«900438_g7700000000000439_dist_gemm_ar_m1024_k1024_n1024_f32_gelu_v7x_i32_1_alg».proof.Proof.Word.Protocol

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

-- the names the cells' invariants are allocated at
variable (K : GSem nD τ sig → ℕ)

/-! ## The ghost state, by the phase that spends it -/

/-- For the k-th signal: the peer's barrier cell, the duty's token, and that c's own four receive cells which the
    signal's payload speaks of stand at round 0. -/
def sigRes (c : Dev nD) (k : Fin 32) : sProp 𝕄 :=
  iprop(cellInv ER (sched m) (K (barCell (fwd c k))) (barCell (fwd c k)) ∗ dutyTok ER (barCell (fwd c k)) 0 k ∗ reached ER (barCell (fwd c k)) 0
    ∗ reached ER (dmaCell c rsR 0 (opp k)) 0 ∗ reached ER (dmaCell c rsR 1 (opp k)) 0
    ∗ reached ER (dmaCell c agR 0 (opp k)) 0 ∗ reached ER (dmaCell c agR 1 (opp k)) 0)

/-- For the barrier wait: c's own barrier cell, its position, and the 31 units of credit. -/
def barRes (c : Dev nD) : sProp 𝕄 :=
  iprop(cellInv ER (sched m) (K (barCell c)) (barCell c) ∗ atPos ER (barCell c) 0 ∅ 0 ∗ cred (tallyAt (barCell c) () 31))

/-- For the copy of offset k, half h, of the reduce (ps = rsS, pr = rsR) or gather (agS, agR) phase: c's send cell with
    its departure duty and position, and the destination's receive cell with its arrival duty. -/
def copyRes (ps pr : Phase) (c : Dev nD) (h : Fin 2) (k : Fin 32) : sProp 𝕄 :=
  iprop(cellInv ER (sched m) (K (dmaCell c ps h k)) (dmaCell c ps h k) ∗ dutyTok ER (dmaCell c ps h k) 0 (0 : Fin 32) ∗ reached ER (dmaCell c ps h k) 0
    ∗ atPos ER (dmaCell c ps h k) 0 ∅ 0
    ∗ cellInv ER (sched m) (K (dmaCell (fwd c k) pr h k)) (dmaCell (fwd c k) pr h k) ∗ dutyTok ER (dmaCell (fwd c k) pr h k) 0 (0 : Fin 32)
    ∗ reached ER (dmaCell (fwd c k) pr h k) 0)

/-- For the wait on c's own receive cell (pr, h, k): the cell, c's position, the chunk's credit. -/
def recvRes (pr : Phase) (c : Dev nD) (h : Fin 2) (k : Fin 32) : sProp 𝕄 :=
  iprop(cellInv ER (sched m) (K (dmaCell c pr h k)) (dmaCell c pr h k) ∗ atPos ER (dmaCell c pr h k) 0 ∅ 0 ∗ cred (tallyAt (dmaCell c pr h k) () Nc))

/-- The eight array entries of offset 0, which the kernel never touches: their counters stay at zero in c's hand. -/
def idleSems (c : Dev nD) : sProp 𝕄 :=
  iprop(semVal (dmaCell c rsS 0 0) 0 ∗ semVal (dmaCell c rsS 1 0) 0 ∗ semVal (dmaCell c rsR 0 0) 0 ∗ semVal (dmaCell c rsR 1 0) 0
    ∗ semVal (dmaCell c agS 0 0) 0 ∗ semVal (dmaCell c agS 1 0) 0 ∗ semVal (dmaCell c agR 0 0) 0 ∗ semVal (dmaCell c agR 1 0) 0)

/-- Everything, in program order. -/
def ghost (c : Dev nD) : sProp 𝕄 :=
  iprop(bigSepL ks (sigRes m K c) ∗ barRes m K c
    ∗ bigSepL ks (copyRes m K rsS rsR c 0) ∗ bigSepL ks (copyRes m K rsS rsR c 1)
    ∗ bigSepL ks (recvRes m K rsR c 0) ∗ bigSepL ks (copyRes m K agS agR c 0)
    ∗ bigSepL ks (recvRes m K rsR c 1) ∗ bigSepL ks (copyRes m K agS agR c 1)
    ∗ bigSepL ks (recvRes m K agR c 0) ∗ bigSepL ks (recvRes m K agR c 1)
    ∗ idleSems c ∗ levAts L lv)

/-! ## The proof data -/

/-- What the body starts from: the ghost state at some names, and the three scratch buffers at anything. -/
def Φ₀ (c : Dev nD) : sProp 𝕄 :=
  iprop((∃ K, ghost m K c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The 248 chunk cells of device c that the kernel uses. -/
def usedSems (c : Dev nD) : sProp 𝕄 :=
  iprop(bigSepL ks (fun k => semVal (dmaCell c rsS 0 k) 0) ∗ bigSepL ks (fun k => semVal (dmaCell c rsS 1 k) 0)
    ∗ bigSepL ks (fun k => semVal (dmaCell c rsR 0 k) 0) ∗ bigSepL ks (fun k => semVal (dmaCell c rsR 1 k) 0)
    ∗ bigSepL ks (fun k => semVal (dmaCell c agS 0 k) 0) ∗ bigSepL ks (fun k => semVal (dmaCell c agS 1 k) 0)
    ∗ bigSepL ks (fun k => semVal (dmaCell c agR 0 k) 0) ∗ bigSepL ks (fun k => semVal (dmaCell c agR 1 k) 0))

/-- What the body hands back: the scratch buffers at anything, and its own 256 semaphores at zero, every used cell
    closed (the barrier cell is the runtime's: nothing to hand back). -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ usedSems c ∗ idleSems c)

/-- The launch's proof data for device c: the input slabs are staged and left as they are, the result window's staging
    buffer ends at the result array, which does not depend on c. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wIn m c
    | ⟨2, _⟩ => result m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.AllReduce

end
-- ==== Proof.Word.LaunchCells.lean ====
import proofs.«900438_g7700000000000439_dist_gemm_ar_m1024_k1024_n1024_f32_gelu_v7x_i32_1_alg».proof.Proof.Word.Ghost

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The protocol's cells, indexed -/

/-- A device's cells: its barrier cell, and entry (p, h, j + 1) of the four arrays. -/
abbrev CIx : Type := Unit ⊕ (Phase × Fin 2 × Fin 31)

abbrev csem : CIx → SemLoc sig
  | .inl _ => .reg barS
  | .inr x => .dma (semAt (arr x.1) x.2.1 x.2.2.succ)

abbrev kcell (ck : Dev nD × CIx) : GSem nD τ sig := ((ck.1 : Thread nD τ), csem ck.2)

theorem csem_injective : Function.Injective csem := by
  intro i i' h
  rcases i with u | ⟨p, hh, j⟩ <;> rcases i' with u' | ⟨p', hh', j'⟩
  · rfl
  · exact absurd h (fun h => by cases h)
  · exact absurd h (fun h => by cases h)
  · have h2 := congrArg semIdx h
    rw [semIdx_semAt, semIdx_semAt] at h2
    simp only [Option.some.injEq, Prod.mk.injEq, Fin.succ_inj] at h2
    obtain ⟨rfl, rfl, rfl⟩ := h2
    rfl

theorem kcell_injective : Function.Injective (kcell : Dev nD × CIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def protoCells : Finset (GSem nD τ sig) := Finset.univ.map ⟨kcell, kcell_injective⟩

/-- The duty tokens of a device's own cells: its barrier's 31, and one per array entry. -/
abbrev TIx : Type := Fin 31 ⊕ (Phase × Fin 2 × Fin 31)

abbrev tokOf (cj : Dev nD × TIx) : GSem nD τ sig × ℕ × Fin 32 := match cj.2 with
  | .inl j => (barCell cj.1, 0, j.succ)
  | .inr x => (dmaCell cj.1 x.1 x.2.1 x.2.2.succ, 0, 0)

theorem tokOf_injective : Function.Injective (tokOf : Dev nD × TIx → GSem nD τ sig × ℕ × Fin 32) := by
  rintro ⟨c, j⟩ ⟨c', j'⟩ h
  have h1 : c = c' := by
    have := congrArg (fun x : GSem nD τ sig × ℕ × Fin 32 => x.1.1.1) h
    rcases j with j | x <;> rcases j' with j' | x' <;> exact this
  subst h1
  rcases j with j | ⟨p, hh, j⟩ <;> rcases j' with j' | ⟨p', hh', j'⟩
  · have := congrArg (fun x : GSem nD τ sig × ℕ × Fin 32 => x.2.2) h
    rw [Fin.succ_inj.mp this]
  · exact absurd (congrArg (fun x : GSem nD τ sig × ℕ × Fin 32 => x.1.2) h) (fun h' => by cases h')
  · exact absurd (congrArg (fun x : GSem nD τ sig × ℕ × Fin 32 => x.1.2) h) (fun h' => by cases h')
  · have h2 : csem (.inr (p, hh, j)) = csem (.inr (p', hh', j')) := congrArg (fun x : GSem nD τ sig × ℕ × Fin 32 => x.1.2) h
    rw [Sum.inr.inj (csem_injective h2)]

def protoToks : Finset (GSem nD τ sig × ℕ × Fin 32) := Finset.univ.map ⟨tokOf, tokOf_injective⟩

/-- The launch element: the pipeline's copy beside the protocol's. -/
def u₀ : UU :=
  (initOf (Pipeline.cells cfgs cellOf_inj) (Pipeline.launchToks cfgs cellOf_inj), initOf protoCells protoToks)

/-! ## The kernel's own semaphores: the 256 array entries -/

abbrev osem : Phase × Fin 2 × Fin 32 → SemLoc sig := fun x => .dma (semAt (arr x.1) x.2.1 x.2.2)

theorem osem_injective : Function.Injective osem := by
  rintro ⟨p, hh, k⟩ ⟨p', hh', k'⟩ h
  have h2 := congrArg semIdx h
  rw [semIdx_semAt, semIdx_semAt] at h2
  exact Option.some.inj h2

theorem ownSemFacts : Pipeline.OwnSemFacts cfg0.spec osem :=
  ⟨by decide +kernel, osem_injective, by decide +kernel⟩

/-! ## Index bookkeeping -/

section Index
variable {M : Type _} [URA M]

/-- The offsets 1..31 as successors. -/
theorem bigSep_succ (Φ : Fin 32 → sProp M) : bigSep Finset.univ (fun j : Fin 31 => Φ j.succ) = bigSepL ks Φ :=
  (bigSep_univ_eq_bigSepL [0, 1, 2, 3, 4, 5, 6, 7, 8, 9, 10, 11, 12, 13, 14, 15, 16, 17, 18, 19, 20, 21, 22, 23, 24, 25, 26, 27, 28, 29, 30]
    (by decide) (by decide) _).trans rfl

theorem bigSep_fin32 (Φ : Fin 32 → sProp M) : bigSep Finset.univ Φ = iprop(Φ 0 ∗ bigSepL ks Φ) := by
  rw [bigSep_univ_split 0, bigSep_eq_bigSepL_of_eq ks (by decide) (by decide)]; rfl

theorem bigSep_ph (Φ : Phase → sProp M) : bigSep Finset.univ Φ = iprop(Φ 0 ∗ Φ 1 ∗ Φ 2 ∗ Φ 3) :=
  bigSep_univ_eq_bigSepL [0, 1, 2, 3] (by decide) (by decide) Φ
theorem bigSep_hf (Φ : Fin 2 → sProp M) : bigSep Finset.univ Φ = iprop(Φ 0 ∗ Φ 1) :=
  bigSep_univ_eq_bigSepL [0, 1] (by decide) (by decide) Φ

/-- A family over (array, half, offset), array by array and half by half. -/
theorem bigSep_phj {J : Type} [Fintype J] (Φ : Phase × Fin 2 × J → sProp M) : bigSep Finset.univ Φ =
    iprop(((bigSep Finset.univ fun j => Φ (0, 0, j)) ∗ (bigSep Finset.univ fun j => Φ (0, 1, j)))
      ∗ ((bigSep Finset.univ fun j => Φ (1, 0, j)) ∗ (bigSep Finset.univ fun j => Φ (1, 1, j)))
      ∗ ((bigSep Finset.univ fun j => Φ (2, 0, j)) ∗ (bigSep Finset.univ fun j => Φ (2, 1, j)))
      ∗ ((bigSep Finset.univ fun j => Φ (3, 0, j)) ∗ (bigSep Finset.univ fun j => Φ (3, 1, j)))) := by
  rw [bigSep_univ_prod, bigSep_ph]
  simp only [bigSep_univ_prod, bigSep_hf]

theorem bigSep_CIx (Φ : CIx → sProp M) : bigSep Finset.univ Φ =
    iprop(Φ (.inl ()) ∗ bigSep Finset.univ fun x : Phase × Fin 2 × Fin 31 => Φ (.inr x)) := by
  rw [bigSep_univ_sum, bigSep_univ_of_subsingleton ()]; rfl

end Index

/-! ## What the launch element deals each device -/

section Deal
variable (c : Dev nD)

/-- Device c's own duty tokens, as minted. -/
def ownToks : sProp 𝕄 :=
  bigSep Finset.univ fun t : TIx => dutyTok ER (tokOf (c, t)).1 (tokOf (c, t)).2.1 (tokOf (c, t)).2.2

/-- What the launch element deals device c (the launch theorem's G). -/
def G : sProp 𝕄 :=
  iprop((bigSep Finset.univ fun i : CIx => roundState ER (sched m) (kcell (c, i)) 0)
    ∗ (bigSep Finset.univ fun i : CIx => atPos ER (kcell (c, i)) 0 ∅ 0)
    ∗ (bigSep Finset.univ fun i : CIx => reached ER (kcell (c, i)) 0) ∗ ownToks c)

end Deal

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun i : CIx => Φ (kcell (c, i)) := by
    unfold protoCells; rw [bigSep_map, bigSep_univ_prod]; rfl
  have hT : bigSep protoToks (fun x => (dutyTok ER x.1 x.2.1 x.2.2 : sProp 𝕄)) = bigSep Finset.univ fun c : Dev nD => ownToks c := by
    unfold protoToks; rw [bigSep_map, bigSep_univ_prod]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores at launch -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own 256 semaphores are the 248 it uses and the eight entries of offset 0, -/
theorem ownSems0_split (c : Dev nD) : (Pipeline.ownSems0 (Ix := Unit) (Name := ℕ) (U := UU) (Lvl := ℕ) (Val := Elt F) (τ := τ) osem c : sProp 𝕄)
    ⊢ iprop(usedSems c ∗ idleSems c) := by
  unfold Pipeline.ownSems0 usedSems idleSems
  rw [bigSep_phj]
  simp only [bigSep_fin32]
  iintro ⟨⟨⟨A0, A⟩, ⟨B0, B⟩⟩, ⟨⟨C0, C⟩, ⟨D0, D⟩⟩, ⟨⟨E0, E⟩, ⟨F0, F'⟩⟩, ⟨G0, G'⟩, ⟨H0, H⟩⟩
  iframe

omit [FloatOps F] in
/-- and back. -/
theorem ownSems0_join (c : Dev nD) : iprop(usedSems c ∗ idleSems c)
    ⊢ (Pipeline.ownSems0 (Ix := Unit) (Name := ℕ) (U := UU) (Lvl := ℕ) (Val := Elt F) (τ := τ) osem c : sProp 𝕄) := by
  unfold Pipeline.ownSems0 usedSems idleSems
  rw [bigSep_phj]
  simp only [bigSep_fin32]
  iintro ⟨⟨A, B, C, D, E, F', G', H⟩, A0, B0, C0, D0, E0, F0, G0, H0⟩
  iframe

end Cert.Kernel.AllReduce

end
-- ==== Proof.Word.LaunchFund.lean ====
import proofs.«900438_g7700000000000439_dist_gemm_ar_m1024_k1024_n1024_f32_gelu_v7x_i32_1_alg».proof.Proof.Word.LaunchCells

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Each device's share, offset by offset -/

/-- The ring turned by k places. -/
def turn (k : Fin 32) : Dev nD ≃ Dev nD := ⟨fun c => fwd c k, fun c => bwd c k, fun c => bwd_fwd c k, fun c => fwd_bwd c k⟩

theorem opp_succ_ne_zero : ∀ j : Fin 31, opp j.succ ≠ 0 := by decide

section Shares
variable (c : Dev nD) (j : Fin 31)

/-- What stays with device c at offset j + 1: its position on its eight cells of that offset, and the departure tokens of
    its four send cells. -/
def stay : sProp 𝕄 :=
  iprop(((atPos ER (dmaCell c 0 0 j.succ) 0 ∅ 0 ∗ atPos ER (dmaCell c 0 1 j.succ) 0 ∅ 0)
      ∗ (atPos ER (dmaCell c 1 0 j.succ) 0 ∅ 0 ∗ atPos ER (dmaCell c 1 1 j.succ) 0 ∅ 0)
      ∗ (atPos ER (dmaCell c 2 0 j.succ) 0 ∅ 0 ∗ atPos ER (dmaCell c 2 1 j.succ) 0 ∅ 0)
      ∗ (atPos ER (dmaCell c 3 0 j.succ) 0 ∅ 0 ∗ atPos ER (dmaCell c 3 1 j.succ) 0 ∅ 0))
    ∗ (dutyTok ER (dmaCell c 0 0 j.succ) 0 (0 : Fin 32) ∗ dutyTok ER (dmaCell c 0 1 j.succ) 0 (0 : Fin 32))
    ∗ (dutyTok ER (dmaCell c 2 0 j.succ) 0 (0 : Fin 32) ∗ dutyTok ER (dmaCell c 2 1 j.succ) 0 (0 : Fin 32)))

/-- What goes to the device j + 1 places back, which pays these duties: the barrier token of that offset, the arrival
    tokens of the four receive cells. -/
def go : sProp 𝕄 :=
  iprop(dutyTok ER (barCell c) 0 j.succ
    ∗ (dutyTok ER (dmaCell c 1 0 j.succ) 0 (0 : Fin 32) ∗ dutyTok ER (dmaCell c 1 1 j.succ) 0 (0 : Fin 32))
    ∗ (dutyTok ER (dmaCell c 3 0 j.succ) 0 (0 : Fin 32) ∗ dutyTok ER (dmaCell c 3 1 j.succ) 0 (0 : Fin 32)))

/-- What device c pays with and waits on at offset j + 1, once the tokens have gone round. -/
def lin : sProp 𝕄 := iprop(stay c j ∗ go (fwd c j.succ) j)

end Shares

omit [FloatOps F] in
theorem bigSep_TIx (Φ : TIx → sProp 𝕄) : bigSep Finset.univ Φ
    = iprop((bigSep Finset.univ fun j : Fin 31 => Φ (.inl j)) ∗ bigSep Finset.univ fun x : Phase × Fin 2 × Fin 31 => Φ (.inr x)) := by
  rw [bigSep_univ_sum]; rfl

omit [FloatOps F] in
theorem deal_lin (c : Dev nD) : iprop((bigSep Finset.univ fun i : CIx => atPos ER (kcell (c, i)) 0 ∅ 0) ∗ ownToks c)
    ⊢ (iprop(atPos ER (barCell c) 0 ∅ 0 ∗ (bigSep Finset.univ fun j => stay c j) ∗ (bigSep Finset.univ fun j => go c j)) : sProp 𝕄) := by
  unfold ownToks
  rw [bigSep_CIx, bigSep_phj, bigSep_TIx, bigSep_phj]
  unfold stay go
  simp only [bigSep_sep']
  iintro ⟨⟨Hb, ⟨P00, P01⟩, ⟨P10, P11⟩, ⟨P20, P21⟩, P30, P31⟩, Tb, ⟨T00, T01⟩, ⟨T10, T11⟩, ⟨T20, T21⟩, T30, T31⟩
  isplitl [Hb]
  · iexact Hb
  isplitl [P00 P01 P10 P11 P20 P21 P30 P31 T00 T01 T20 T21]
  · isplitl [P00 P01 P10 P11 P20 P21 P30 P31]
    · isplitl [P00 P01]
      · isplitl [P00]
        · iexact P00
        iexact P01
      isplitl [P10 P11]
      · isplitl [P10]
        · iexact P10
        iexact P11
      isplitl [P20 P21]
      · isplitl [P20]
        · iexact P20
        iexact P21
      isplitl [P30]
      · iexact P30
      iexact P31
    isplitl [T00 T01]
    · isplitl [T00]
      · iexact T00
      iexact T01
    isplitl [T20]
    · iexact T20
    iexact T21
  isplitl [Tb]
  · iexact Tb
  isplitl [T10 T11]
  · isplitl [T10]
    · iexact T10
    iexact T11
  isplitl [T30]
  · iexact T30
  iexact T31

omit [FloatOps F] in
theorem sems_cells (c : Dev nD) : iprop(usedSems c ∗ semVal (barCell c) 0) ⊢ (bigSep Finset.univ fun i : CIx => semVal (kcell (c, i)) 0 : sProp 𝕄) := by
  rw [bigSep_CIx, bigSep_phj]
  unfold usedSems
  simp only [← bigSep_succ]
  iintro ⟨⟨A, B, C, D, E, F', G', H⟩, Hb⟩
  isplitl [Hb]
  · iexact Hb
  isplitl [A B]
  · isplitl [A]
    · iexact A
    iexact B
  isplitl [C D]
  · isplitl [C]
    · iexact C
    iexact D
  isplitl [E F']
  · isplitl [E]
    · iexact E
    iexact F'
  isplitl [G']
  · iexact G'
  iexact H

/-- What the launch has dealt device c once its cells' invariants are allocated. -/
def dealt (c : Dev nD) : sProp 𝕄 :=
  iprop((bigSep Finset.univ fun i : CIx => iprop(∃ κ : ℕ, cellInv ER (sched m) κ (kcell (c, i))))
    ∗ (bigSep Finset.univ fun i : CIx => reached ER (kcell (c, i)) 0)
    ∗ atPos ER (barCell c) 0 ∅ 0 ∗ (bigSep Finset.univ fun j => stay c j) ∗ (bigSep Finset.univ fun j => go c j) ∗ idleSems c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> dealt m c := by
  unfold G
  rw [unscopedSems0_eq]
  iintro ⟨Hos, Hbar, Hst, Hat, Hr, Htok⟩
  ihave Hos' := (ownSems0_split (F := F) c) $$ Hos
  icases Hos' with ⟨Hused, Hidle⟩
  ihave Hv := (sems_cells (F := F) c) $$ [Hused Hbar]
  · isplitl [Hused] <;> iassumption
  imod (show iprop((bigSep Finset.univ fun i : CIx => semVal (kcell (c, i)) 0) ∗ bigSep Finset.univ fun i : CIx => roundState ER (sched m) (kcell (c, i)) 0)
      ⊢ (|={Set.univ}=> bigSep Finset.univ fun i : CIx => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  ihave Hl := (deal_lin (F := F) c) $$ [Hat Htok]
  · isplitl [Hat] <;> iassumption
  icases Hl with ⟨Hb, Hstay, Hgo⟩
  unfold dealt
  isplitl [Hinv]
  · iexact Hinv
  isplitl [Hr]
  · iexact Hr
  isplitl [Hb]
  · iexact Hb
  isplitl [Hstay]
  · iexact Hstay
  isplitl [Hgo]
  · iexact Hgo
  iexact Hidle

/-! ## The shared records, and each device's ghost state from them -/

variable (K : GSem nD τ sig → ℕ)

/-- Every cell's invariant at its name, and that round 0 of every cell is reached: persistent, shared by all devices. -/
def records : sProp 𝕄 :=
  iprop((bigSep Finset.univ fun ck : Dev nD × CIx => cellInv ER (sched m) (K (kcell ck)) (kcell ck))
    ∗ bigSep Finset.univ fun ck : Dev nD × CIx => reached ER (kcell ck) 0)

instance records_persistent : BI.Persistent (records m K) := by unfold records; infer_instance

theorem rec_inv (ck : Dev nD × CIx) : records m K ⊢ cellInv ER (sched m) (K (kcell ck)) (kcell ck) :=
  sep_elim_left.trans (bigSep_elim (Finset.mem_univ ck))
theorem rec_reached (ck : Dev nD × CIx) : records m K ⊢ reached ER (kcell ck) 0 :=
  sep_elim_right.trans (bigSep_elim (Finset.mem_univ ck))
theorem rec_inv_bar (c : Dev nD) : records m K ⊢ cellInv ER (sched m) (K (barCell c)) (barCell c) := rec_inv m K (c, .inl ())
theorem rec_reached_bar (c : Dev nD) : records m K ⊢ reached ER (barCell c) 0 := rec_reached m K (c, .inl ())
theorem rec_inv_dma (c : Dev nD) (p : Phase) (h : Fin 2) (k : Fin 32) (hk : k ≠ 0) :
    records m K ⊢ cellInv ER (sched m) (K (dmaCell c p h k)) (dmaCell c p h k) := by
  obtain ⟨j, rfl⟩ := Fin.exists_succ_eq.mpr hk
  exact rec_inv m K (c, .inr (p, h, j))
theorem rec_reached_dma (c : Dev nD) (p : Phase) (h : Fin 2) (k : Fin 32) (hk : k ≠ 0) :
    records m K ⊢ reached ER (dmaCell c p h k) 0 := by
  obtain ⟨j, rfl⟩ := Fin.exists_succ_eq.mpr hk
  exact rec_reached m K (c, .inr (p, h, j))

/-- A receive wait's resources without its credit, which the launch hands over separately. -/
def recvPos (pr : Phase) (c : Dev nD) (h : Fin 2) (k : Fin 32) : sProp 𝕄 :=
  iprop(cellInv ER (sched m) (K (dmaCell c pr h k)) (dmaCell c pr h k) ∗ atPos ER (dmaCell c pr h k) 0 ∅ 0)

/-- Device c's ghost state of offset j + 1. -/
def preJ (c : Dev nD) (j : Fin 31) : sProp 𝕄 :=
  iprop(sigRes m K c j.succ ∗ copyRes m K rsS rsR c 0 j.succ ∗ copyRes m K rsS rsR c 1 j.succ ∗ copyRes m K agS agR c 0 j.succ ∗ copyRes m K agS agR c 1 j.succ
    ∗ recvPos m K rsR c 0 j.succ ∗ recvPos m K rsR c 1 j.succ ∗ recvPos m K agR c 0 j.succ ∗ recvPos m K agR c 1 j.succ)

set_option maxRecDepth 4000 in
theorem preJ_intro (c : Dev nD) (j : Fin 31) : iprop(records m K ∗ lin c j) ⊢ preJ m K c j := by
  unfold lin stay go preJ sigRes copyRes recvPos
  iintro ⟨#Hrec, ⟨⟨⟨P00, P01⟩, ⟨P10, P11⟩, ⟨P20, P21⟩, P30, P31⟩, ⟨T00, T01⟩, T20, T21⟩, Tb, ⟨T10, T11⟩, T30, T31⟩
  isplitl [Tb]
  · isplitl []
    · iapply (rec_inv_bar m K (fwd c j.succ)); iexact Hrec
    isplitl [Tb]
    · iexact Tb
    isplitl []
    · iapply (rec_reached_bar m K (fwd c j.succ)); iexact Hrec
    isplitl []
    · iapply (rec_reached_dma m K c rsR 0 (opp j.succ) (opp_succ_ne_zero j)); iexact Hrec
    isplitl []
    · iapply (rec_reached_dma m K c rsR 1 (opp j.succ) (opp_succ_ne_zero j)); iexact Hrec
    isplitl []
    · iapply (rec_reached_dma m K c agR 0 (opp j.succ) (opp_succ_ne_zero j)); iexact Hrec
    iapply (rec_reached_dma m K c agR 1 (opp j.succ) (opp_succ_ne_zero j)); iexact Hrec
  isplitl [T00 P00 T10]
  · isplitl []
    · iapply (rec_inv_dma m K c rsS 0 j.succ (Fin.succ_ne_zero j)); iexact Hrec
    isplitl [T00]
    · iexact T00
    isplitl []
    · iapply (rec_reached_dma m K c rsS 0 j.succ (Fin.succ_ne_zero j)); iexact Hrec
    isplitl [P00]
    · iexact P00
    isplitl []
    · iapply (rec_inv_dma m K (fwd c j.succ) rsR 0 j.succ (Fin.succ_ne_zero j)); iexact Hrec
    isplitl [T10]
    · iexact T10
    iapply (rec_reached_dma m K (fwd c j.succ) rsR 0 j.succ (Fin.succ_ne_zero j)); iexact Hrec
  isplitl [T01 P01 T11]
  · isplitl []
    · iapply (rec_inv_dma m K c rsS 1 j.succ (Fin.succ_ne_zero j)); iexact Hrec
    isplitl [T01]
    · iexact T01
    isplitl []
    · iapply (rec_reached_dma m K c rsS 1 j.succ (Fin.succ_ne_zero j)); iexact Hrec
    isplitl [P01]
    · iexact P01
    isplitl []
    · iapply (rec_inv_dma m K (fwd c j.succ) rsR 1 j.succ (Fin.succ_ne_zero j)); iexact Hrec
    isplitl [T11]
    · iexact T11
    iapply (rec_reached_dma m K (fwd c j.succ) rsR 1 j.succ (Fin.succ_ne_zero j)); iexact Hrec
  isplitl [T20 P20 T30]
  · isplitl []
    · iapply (rec_inv_dma m K c agS 0 j.succ (Fin.succ_ne_zero j)); iexact Hrec
    isplitl [T20]
    · iexact T20
    isplitl []
    · iapply (rec_reached_dma m K c agS 0 j.succ (Fin.succ_ne_zero j)); iexact Hrec
    isplitl [P20]
    · iexact P20
    isplitl []
    · iapply (rec_inv_dma m K (fwd c j.succ) agR 0 j.succ (Fin.succ_ne_zero j)); iexact Hrec
    isplitl [T30]
    · iexact T30
    iapply (rec_reached_dma m K (fwd c j.succ) agR 0 j.succ (Fin.succ_ne_zero j)); iexact Hrec
  isplitl [T21 P21 T31]
  · isplitl []
    · iapply (rec_inv_dma m K c agS 1 j.succ (Fin.succ_ne_zero j)); iexact Hrec
    isplitl [T21]
    · iexact T21
    isplitl []
    · iapply (rec_reached_dma m K c agS 1 j.succ (Fin.succ_ne_zero j)); iexact Hrec
    isplitl [P21]
    · iexact P21
    isplitl []
    · iapply (rec_inv_dma m K (fwd c j.succ) agR 1 j.succ (Fin.succ_ne_zero j)); iexact Hrec
    isplitl [T31]
    · iexact T31
    iapply (rec_reached_dma m K (fwd c j.succ) agR 1 j.succ (Fin.succ_ne_zero j)); iexact Hrec
  isplitl [P10]
  · isplitl []
    · iapply (rec_inv_dma m K c rsR 0 j.succ (Fin.succ_ne_zero j)); iexact Hrec
    iexact P10
  isplitl [P11]
  · isplitl []
    · iapply (rec_inv_dma m K c rsR 1 j.succ (Fin.succ_ne_zero j)); iexact Hrec
    iexact P11
  isplitl [P30]
  · isplitl []
    · iapply (rec_inv_dma m K c agR 0 j.succ (Fin.succ_ne_zero j)); iexact Hrec
    iexact P30
  isplitl []
  · iapply (rec_inv_dma m K c agR 1 j.succ (Fin.succ_ne_zero j)); iexact Hrec
  iexact P31

/-- Device c's ghost state short of its launch credit and the level facts. -/
def pre (c : Dev nD) : sProp 𝕄 :=
  iprop((cellInv ER (sched m) (K (barCell c)) (barCell c) ∗ atPos ER (barCell c) 0 ∅ 0) ∗ idleSems c ∗ bigSep Finset.univ fun j => preJ m K c j)

/-- What the global step makes of the dealt resources (the launch theorem's G'). -/
def G' (c : Dev nD) : sProp 𝕄 := iprop(∃ K, pre m K c)

theorem pre_intro (c : Dev nD) :
    iprop(records m K ∗ (atPos ER (barCell c) 0 ∅ 0 ∗ idleSems c ∗ bigSep Finset.univ fun j => lin c j)) ⊢ G' m c := by
  iintro ⟨#Hrec, Hb, Hidle, Hlin⟩
  unfold G' pre
  iexists K
  isplitl [Hb]
  · isplitl []
    · iapply (rec_inv_bar m K c); iexact Hrec
    iexact Hb
  isplitl [Hidle]
  · iexact Hidle
  iapply (BI.bigSep_with_persistent (R := records m K) fun j _ => preJ_intro m K c j)
  isplitl []
  · iexact Hrec
  iexact Hlin

/-! ## The global step -/

omit [FloatOps F] in
/-- The tokens go round: what every device holds for the device j + 1 places on is what every device holds from the
    device j + 1 places back. -/
theorem around (Φ : Dev nD → Fin 31 → sProp 𝕄) :
    (bigSep Finset.univ fun c => bigSep Finset.univ fun j => Φ c j) = bigSep Finset.univ fun c => bigSep Finset.univ fun j => Φ (fwd c j.succ) j := by
  refine (bigSep_univ_comm Φ).trans (Eq.trans ?_ (bigSep_univ_comm fun c j => Φ (fwd c j.succ) j).symm)
  exact bigSep_congr fun j _ => bigSep_univ_equiv (turn j.succ) (fun c => Φ c j)

theorem choose_names : (bigSep Finset.univ fun ck : Dev nD × CIx => iprop(∃ κ : ℕ, cellInv ER (sched m) κ (kcell ck)) : sProp 𝕄)
    ⊢ iprop(∃ K : GSem nD τ sig → ℕ, bigSep Finset.univ fun ck : Dev nD × CIx => cellInv ER (sched m) (K (kcell ck)) (kcell ck)) := by
  have e (Ψ : GSem nD τ sig → sProp 𝕄) : bigSep protoCells Ψ = bigSep Finset.univ fun ck : Dev nD × CIx => Ψ (kcell ck) := by
    unfold protoCells; rw [bigSep_map]; rfl
  rw [← e (fun g => iprop(∃ κ : ℕ, cellInv ER (sched m) κ g))]
  refine (BI.bigSep_exists_pi protoCells (fun (g : GSem nD τ sig) (κ : ℕ) => (cellInv ER (sched m) κ g : sProp 𝕄))).trans ?_
  iintro ⟨%K, H⟩
  iexists K
  rw [← e (fun g => cellInv ER (sched m) (K g) g)]
  iexact H

theorem regroup : (bigSep Finset.univ fun c : Dev nD => dealt m c) ⊢ bigSep Finset.univ (G' m) := by
  unfold dealt
  rw [bigSep_sep', bigSep_sep', bigSep_sep', bigSep_sep', bigSep_sep',
    ← bigSep_univ_prod (fun ck : Dev nD × CIx => iprop(∃ κ : ℕ, cellInv ER (sched m) κ (kcell ck))),
    ← bigSep_univ_prod (fun ck : Dev nD × CIx => (reached ER (kcell ck) 0 : sProp 𝕄))]
  iintro ⟨HI, #HR, Hb, Hstay, Hgo, Hidle⟩
  ihave HK := (choose_names m) $$ HI
  icases HK with ⟨%K, #HI⟩
  ihave Hgo' := (Entails.of_eq (around (F := F) (fun c j => go c j))) $$ Hgo
  iapply (BI.bigSep_with_persistent (R := records m K) fun c _ => pre_intro m K c)
  isplitl []
  · unfold records
    isplitl []
    · iexact HI
    iexact HR
  · simp only [lin, bigSep_sep']
    isplitl [Hb]
    · iexact Hb
    isplitl [Hidle]
    · iexact Hidle
    isplitl [Hstay]
    · iexact Hstay
    iexact Hgo'

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.AllReduce

end
-- ==== Proof.Word.LaunchCredit.lean ====
import proofs.«900438_g7700000000000439_dist_gemm_ar_m1024_k1024_n1024_f32_gelu_v7x_i32_1_alg».proof.Proof.Word.LaunchCells

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What the devices owe, summed offset by offset -/

omit [FloatOps F] in
theorem ks_nodup : ks.Nodup := by decide

omit [FloatOps F] in
theorem owedOf_eq_sum (l : List (GSem nD τ sig × ℕ)) : owedOf l = (l.map fun p => (tallyAt p.1 () p.2 : CellTallies nD τ sig Unit)).sum := by
  induction l with
  | nil => rfl
  | cons p l ih => rw [owedOf_cons, ih, List.map_cons, List.sum_cons, add_comm]

/-- What device d owes at offset k: a signal to the barrier cell of the device k places on, and one chunk's credit to each
    of that device's four receive cells of offset k. -/
def dueAt (k : Fin 32) (d : Dev nD) : CellTallies nD τ sig Unit :=
  tallyAt (barCell (fwd d k)) () 1 + (tallyAt (dmaCell (fwd d k) rsR 0 k) () Nc + (tallyAt (dmaCell (fwd d k) rsR 1 k) () Nc
    + (tallyAt (dmaCell (fwd d k) agR 0 k) () Nc + tallyAt (dmaCell (fwd d k) agR 1 k) () Nc)))

omit [FloatOps F] in
theorem O₀_eq_sum (d : Dev nD) : O₀ d = ∑ k ∈ ks.toFinset, dueAt k d := by
  unfold O₀ payList
  rw [owedOf_eq_sum]
  simp only [List.map_append, List.map_map, List.sum_append, ← List.sum_toFinset _ ks_nodup, Function.comp_def]
  unfold dueAt
  simp only [Finset.sum_add_distrib, add_assoc]

/-! ## The launch credit -/

omit [FloatOps F] in
/-- The credit of offset k: from the device k places back. -/
theorem creds_at (k : Fin 32) (c : Dev nD) : (Pipeline.launchCred (dueAt k) c : sProp 𝕄)
    ⊢ iprop(cred (tallyAt (barCell c) () 1) ∗ cred (tallyAt (dmaCell c rsR 0 k) () Nc) ∗ cred (tallyAt (dmaCell c rsR 1 k) () Nc)
        ∗ cred (tallyAt (dmaCell c agR 0 k) () Nc) ∗ cred (tallyAt (dmaCell c agR 1 k) () Nc)) := by
  have hat (sm : SemLoc sig) (n : ℕ) : (Pipeline.launchCred (fun d => tallyAt (((fwd d k : Dev nD) : Thread nD τ), sm) () n) c : sProp 𝕄)
      ⊢ cred (tallyAt ((c : Thread nD τ), sm) () n) :=
    Pipeline.launchCred_tallyAt sm (fun d => fwd d k) (fun d => bwd d k) (fun c => fwd_bwd c k) (fun d => bwd_fwd d k) () n c
  unfold dueAt
  rw [Pipeline.launchCred_add, Pipeline.launchCred_add, Pipeline.launchCred_add, Pipeline.launchCred_add]
  exact BIClass.sep_mono (hat _ _) (BIClass.sep_mono (hat _ _) (BIClass.sep_mono (hat _ _) (BIClass.sep_mono (hat _ _) (hat _ _))))

omit [FloatOps F] in
theorem cred_units (g : GSem nD τ sig) (s : Finset (Fin 32)) :
    (bigSep s fun _ => (cred (tallyAt g () 1) : sProp 𝕄)) ⊢ cred (tallyAt g () s.card) := by
  induction s using Finset.induction_on with
  | empty => rw [bigSep_empty, Finset.card_empty, tallyAt_zero, cred_zero]; exact Entails.of_eq rfl
  | insert a s ha ih =>
    rw [bigSep_insert ha, Finset.card_insert_of_notMem ha, Nat.add_comm, ← tallyAt_add]
    exact (sep_mono_right ih).trans (cred_add _ _).2

omit [FloatOps F] in
/-- Device c's launch credit: the 31 units of its barrier cell, and a chunk's credit on each receive cell. -/
theorem creds (c : Dev nD) : (Pipeline.launchCred O₀ c : sProp 𝕄)
    ⊢ iprop(cred (tallyAt (barCell c) () 31) ∗ bigSepL ks (fun k => cred (tallyAt (dmaCell c rsR 0 k) () Nc)) ∗ bigSepL ks (fun k => cred (tallyAt (dmaCell c rsR 1 k) () Nc))
        ∗ bigSepL ks (fun k => cred (tallyAt (dmaCell c agR 0 k) () Nc)) ∗ bigSepL ks (fun k => cred (tallyAt (dmaCell c agR 1 k) () Nc))) := by
  rw [show (O₀ : Dev nD → CellTallies nD τ sig Unit) = fun d => ∑ k ∈ ks.toFinset, dueAt k d from funext O₀_eq_sum, Pipeline.launchCred_sum]
  refine (bigSep_mono fun k _ => creds_at k c).trans ?_
  rw [bigSep_sep', bigSep_sep', bigSep_sep', bigSep_sep']
  simp only [← bigSep_eq_bigSepL ks ks_nodup]
  exact sep_mono_left ((cred_units (barCell c) ks.toFinset).trans (Entails.of_eq (by rw [show ks.toFinset.card = 31 from by decide])))

end Cert.Kernel.AllReduce

end
-- ==== Proof.Word.LaunchRun.lean ====
import proofs.«900438_g7700000000000439_dist_gemm_ar_m1024_k1024_n1024_f32_gelu_v7x_i32_1_alg».proof.Proof.Word.LaunchFund
import proofs.«900438_g7700000000000439_dist_gemm_ar_m1024_k1024_n1024_f32_gelu_v7x_i32_1_alg».proof.Proof.Word.LaunchCredit

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Waits: a wait sits below everything the waiter still owes -/

omit [FloatOps F] in
/-- A list of payments owes only at its payments' cells. -/
theorem owedOf_pos {l : List (GSem nD τ sig × ℕ)} {g : GSem nD τ sig} {u : Unit} (h : 0 < owedOf l g u) : ∃ p ∈ l, g = p.1 := by
  induction l with
  | nil => exact absurd h (Nat.lt_irrefl 0)
  | cons p l ih =>
    rw [owedOf_cons] at h
    rcases Pipeline.add_pos_cases h with h | h
    · obtain ⟨q, hq, rfl⟩ := ih h
      exact ⟨q, List.mem_cons_of_mem _ hq, rfl⟩
    · exact ⟨p, List.mem_cons_self, (Pipeline.tallyAt_pos h).1⟩

omit [FloatOps F] in
/-- The ledger lemma: a device may wait on its cell sm while it owes the payments l, each to a TensorCore's cell of a
    level above sm's. -/
theorem mayWait_owedOf (c : Dev nD) (sm : SemLoc sig) (l : List (GSem nD τ sig × ℕ))
    (hl : ∀ p ∈ l, p.1.1.2 = .tc ∧ lv ((c : Thread nD τ), sm) () < lv p.1 ()) :
    (levAts L lv : sProp 𝕄) ⊢ MayWait (c : Thread nD τ) sm () (owedOf l) :=
  Pipeline.mayWait_of_levAts (by rw [L_tc]; exact Finset.mem_singleton_self _) fun g i hg => by
    obtain ⟨p, hp, rfl⟩ := owedOf_pos hg
    exact ⟨by unfold L; rw [if_pos (hl p hp).1]; exact Finset.mem_singleton_self _, (hl p hp).2⟩

/-- A payment to a receive cell, of the reduce or of the gather phase. -/
def IsRecvPay (p : GSem nD τ sig × ℕ) : Prop := ∃ (c' : Dev nD) (h : Fin 2) (k : Fin 32), p.1 = dmaCell c' rsR h k ∨ p.1 = dmaCell c' agR h k
/-- A payment to a receive cell of the gather phase. -/
def IsGatherPay (p : GSem nD τ sig × ℕ) : Prop := ∃ (c' : Dev nD) (h : Fin 2) (k : Fin 32), p.1 = dmaCell c' agR h k

omit [FloatOps F] in
/-- The barrier wait: the signals are paid, the copies still owed. -/
theorem mayWait_bar (c : Dev nD) (l : List (GSem nD τ sig × ℕ)) (hl : ∀ p ∈ l, IsRecvPay p) :
    (levAts L lv : sProp 𝕄) ⊢ MayWait (c : Thread nD τ) (.reg barS) () (owedOf l) :=
  mayWait_owedOf c _ l fun p hp => by
    obtain ⟨c', h, k, hp' | hp'⟩ := hl p hp
    · rw [hp']; exact ⟨rfl, by rw [lv_bar, lv_dma]; decide⟩
    · rw [hp']; exact ⟨rfl, by rw [lv_bar, lv_dma]; decide⟩

omit [FloatOps F] in
/-- A wait on a receive cell of the reduce phase: only gather copies still owed. -/
theorem mayWait_rsR (c : Dev nD) (h : Fin 2) (k : Fin 32) (l : List (GSem nD τ sig × ℕ)) (hl : ∀ p ∈ l, IsGatherPay p) :
    (levAts L lv : sProp 𝕄) ⊢ MayWait (c : Thread nD τ) (.dma (semAt (arr rsR) h k)) () (owedOf l) :=
  mayWait_owedOf c _ l fun p hp => by
    obtain ⟨c', h', k', hp'⟩ := hl p hp
    rw [hp']; exact ⟨rfl, by rw [lv_dma, lv_dma]; decide⟩

omit [FloatOps F] in
/-- A wait on a cell of level 0 (a staging cell, a send cell): any payment to a barrier or a receive cell may be owed. -/
theorem mayWait_low (c : Dev nD) (sm : SemLoc sig) (hsm : lv ((c : Thread nD τ), sm) () = 0) (l : List (GSem nD τ sig × ℕ))
    (hl : ∀ p ∈ l, p.1.1.2 = .tc ∧ 1 ≤ lv p.1 ()) :
    (levAts L lv : sProp 𝕄) ⊢ MayWait (c : Thread nD τ) sm () (owedOf l) :=
  mayWait_owedOf c sm l fun p hp => ⟨(hl p hp).1, by rw [hsm]; exact (hl p hp).2⟩

omit [FloatOps F] in
theorem payList_levels (c : Dev nD) : ∀ p ∈ payList c, p.1.1.2 = .tc ∧ 1 ≤ lv p.1 () := by
  intro p hp
  simp only [payList, List.mem_append, List.mem_map] at hp
  rcases hp with (((⟨k, -, rfl⟩ | ⟨k, -, rfl⟩) | ⟨k, -, rfl⟩) | ⟨k, -, rfl⟩) | ⟨k, -, rfl⟩
  · exact ⟨rfl, by rw [lv_bar]⟩
  · exact ⟨rfl, by rw [lv_dma]; decide⟩
  · exact ⟨rfl, by rw [lv_dma]; decide⟩
  · exact ⟨rfl, by rw [lv_dma]; decide⟩
  · exact ⟨rfl, by rw [lv_dma]; decide⟩

omit [FloatOps F] in
theorem lv_stage (c : Dev nD) (w : Fin cfg0.W) (s : Fin (cfg0.win w).nbuf) : lv ((c : Thread nD τ), .dma ((cfg0.win w).sem s)) () = 0 := by
  fin_cases w <;> fin_cases s <;> first | rfl | decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (lv_stage c w s) (payList c) (payList_levels c)
    · show _ ⊢ MayWait _ _ () 0
      rw [MayWait_zero]; iintro -; iempintro

/-! ## The theorem's side conditions -/

theorem share_eq (c : Dev nD) (w : Fin cfg0.W) : (dats m ρ 0 c).share w = fullShare := by unfold Dat.share; split <;> rfl

theorem recv_join1 (K : GSem nD τ sig → ℕ) (pr : Phase) (c : Dev nD) (h : Fin 2) (k : Fin 32) :
    iprop(recvPos m K pr c h k ∗ cred (tallyAt (dmaCell c pr h k) () Nc)) ⊢ recvRes m K pr c h k := by
  unfold recvPos recvRes
  iintro ⟨⟨HI, HP⟩, HC⟩
  isplitl [HI]
  · iexact HI
  isplitl [HP]
  · iexact HP
  iexact HC

/-- A receive wait's resources: the cell and position dealt at launch, and the launch credit. -/
theorem recv_join (K : GSem nD τ sig → ℕ) (pr : Phase) (c : Dev nD) (h : Fin 2) :
    iprop((bigSep Finset.univ fun j : Fin 31 => recvPos m K pr c h j.succ) ∗ bigSepL ks (fun k => cred (tallyAt (dmaCell c pr h k) () Nc)))
      ⊢ bigSepL ks (recvRes m K pr c h) := by
  rw [← bigSep_succ, ← bigSep_succ, ← bigSep_sep']
  exact bigSep_mono fun j _ => recv_join1 m K pr c h j.succ

set_option maxRecDepth 4000 in
/-- The ghost state in program order, from what the global step made, the launch credit and the level facts. -/
theorem ghost_intro (K : GSem nD τ sig → ℕ) (c : Dev nD) :
    iprop(pre m K c ∗ (cred (tallyAt (barCell c) () 31) ∗ bigSepL ks (fun k => cred (tallyAt (dmaCell c rsR 0 k) () Nc)) ∗ bigSepL ks (fun k => cred (tallyAt (dmaCell c rsR 1 k) () Nc))
        ∗ bigSepL ks (fun k => cred (tallyAt (dmaCell c agR 0 k) () Nc)) ∗ bigSepL ks (fun k => cred (tallyAt (dmaCell c agR 1 k) () Nc))) ∗ levAts L lv)
      ⊢ ghost m K c := by
  unfold pre preJ
  simp only [bigSep_sep']
  rw [bigSep_succ (sigRes m K c), bigSep_succ (copyRes m K rsS rsR c 0), bigSep_succ (copyRes m K rsS rsR c 1),
    bigSep_succ (copyRes m K agS agR c 0), bigSep_succ (copyRes m K agS agR c 1)]
  iintro ⟨⟨⟨Ib, Pb⟩, Hidle, Sg, C00, C01, C20, C21, R10, R11, R30, R31⟩, ⟨Cb, K10, K11, K30, K31⟩, Hlev⟩
  ihave Q10 := (recv_join m K rsR c 0) $$ [R10 K10]
  · isplitl [R10] <;> iassumption
  ihave Q11 := (recv_join m K rsR c 1) $$ [R11 K11]
  · isplitl [R11] <;> iassumption
  ihave Q30 := (recv_join m K agR c 0) $$ [R30 K30]
  · isplitl [R30] <;> iassumption
  ihave Q31 := (recv_join m K agR c 1) $$ [R31 K31]
  · isplitl [R31] <;> iassumption
  unfold ghost barRes
  isplitl [Sg]
  · iexact Sg
  isplitl [Ib Pb Cb]
  · isplitl [Ib]
    · iexact Ib
    isplitl [Pb]
    · iexact Pb
    iexact Cb
  isplitl [C00]
  · iexact C00
  isplitl [C01]
  · iexact C01
  isplitl [Q10]
  · iexact Q10
  isplitl [C20]
  · iexact C20
  isplitl [Q11]
  · iexact Q11
  isplitl [C21]
  · iexact C21
  isplitl [Q30]
  · iexact Q30
  isplitl [Q31]
  · iexact Q31
  isplitl [Hidle]
  · iexact Hidle
  iexact Hlev

/-- What device c routes into the pipeline's invariant: its ghost state at some names. -/
def start (c : Dev nD) : sProp 𝕄 := iprop(∃ K, ghost m K c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  unfold G'
  icases HG with ⟨%K, Hpre⟩
  imodintro
  unfold start
  isplitl
  · iexists K
    iapply (ghost_intro m K c)
    isplitl [Hpre]
    · iexact Hpre
    isplitl [Hc]
    · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start
  iintro ⟨Hs, -, Hr⟩
  isplitl [Hs]
  · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁
  iintro ⟨H0, H1, H2, Hu, Hi⟩
  isplitl []
  · iempintro
  isplitl [Hu Hi]
  · iapply (ownSems0_join (F := F) c)
    isplitl [Hu] <;> iassumption
  isplitl [H0]
  · iexact H0
  isplitl [H1]
  · iexact H1
  iexact H2

/-! ## The run -/

/-- The three windows' arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- At the compiled mesh of 32 devices, for any float values, from any memory with zero counters, given that each device's
    body meets its obligation: every weakly fair execution of @main terminates, and every final state has each
    device's three arrays at the contents the proof data name. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.AllReduce.run_main' depends on axioms: [propext, Classical.choice, Quot.sound] -/
#guard_msgs in #print axioms run_main

end Cert.Kernel.AllReduce

end
-- ==== Proof.Word.LaunchFrames.lean ====
import proofs.«900438_g7700000000000439_dist_gemm_ar_m1024_k1024_n1024_f32_gelu_v7x_i32_1_alg».proof.Proof.Word.LaunchRun

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The three arrays after the run -/

/-- The left argument's array is never written back. -/
theorem finalA_x (c : Dev nD) : finalA m ρ c (0 : Fin 3) = m ((c : Thread nD τ).loc main_arg0) :=
  (dats (F := F) m ρ 0 c).arrAt_in (0 : Fin 3) rfl _

/-- Nor the right argument's. -/
theorem finalA_w (c : Dev nD) : finalA m ρ c (1 : Fin 3) = m ((c : Thread nD τ).loc main_arg1) :=
  (dats (F := F) m ρ 0 c).arrAt_in (1 : Fin 3) rfl _

/-- The result array after the run, read through its one block: what the body left at the one point. -/
theorem final_out (c : Dev nD) :
    ((cfg0.win (2 : Fin 3)).blk t0_0).view.read (Elt F) ((dats (F := F) m ρ 0 c).arrAt (2 : Fin 3) cfg0.N)
      = (dats (F := F) m ρ 0 c).flushed (2 : Fin 3) t0_0 := by
  rw [show cfg0.N = (t0_0 : Fin cfg0.N).val + 1 from rfl, (dats (F := F) m ρ 0 c).arrAt_succ (2 : Fin 3) t0_0]
  rw [show (cfg0.win (2 : Fin 3)).flush t0_0 = true from by decide, if_pos rfl]
  exact View.read_write_univ _ _

/-- The result array after the run is the result the protocol names, on every device. -/
theorem finalA_out (c : Dev nD) : finalA m ρ c (2 : Fin 3) = result m := by
  have ho := final_out (F := F) m ρ c
  have hz2 : (fun a => (win0_2.index t0_0) a * main_v1.ty.shape.size a) = fun _ => 0 := funext fun a => by fin_cases a <;> decide
  have hr2 := fun f => Memref.read_access_unit_zero (Elt F) main_v1 hz2 (fun a => by fin_cases a <;> decide) f
  rw [hr2] at ho
  unfold finalA
  rw [ho]
  rfl

/-! ## The run's post, read at the program's arrays -/

/-- Given each device's body obligation: every weakly fair execution of @main terminates, each device's result array
    ends at the result the protocol names — the same on every device — and its two arguments as launched. -/
theorem run_post (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = result m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c (2 : Fin 3)).trans (finalA_out m ρ c), (h c (0 : Fin 3)).trans (finalA_x m ρ c), (h c (1 : Fin 3)).trans (finalA_w m ρ c)⟩)
    (run_main m ρ hbody)

/-- The frame: the run with the value dropped. -/
theorem frame_run (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_post m ρ hbody)

/-- info: 'Cert.Kernel.AllReduce.run_post' depends on axioms: [propext, Classical.choice, Quot.sound] -/
#guard_msgs in #print axioms run_post

/-- info: 'Cert.Kernel.AllReduce.frame_run' depends on axioms: [propext, Classical.choice, Quot.sound] -/
#guard_msgs in #print axioms frame_run

end Cert.Kernel.AllReduce

end
-- ==== Proof.Word.Owed.lean ====
/-
  What a device still owes after its first n payments to other devices' cells, and the one-step equations between them.
-/
import proofs.«900438_g7700000000000439_dist_gemm_ar_m1024_k1024_n1024_f32_gelu_v7x_i32_1_alg».proof.Proof.Word.Ghost

noncomputable section

namespace Cert.Kernel.AllReduce

open Cert.Kernel Cert.Kernel.Gen
open Idealize.ShloMosaic Idealize.ShloMosaic.TcCoe

/-- What device c owes after its first n payments, in program order. -/
def owedAfter (c : Dev nD) (n : ℕ) : CellTallies nD τ sig Unit := owedOf ((payList c).drop n)

theorem owedAfter_zero (c : Dev nD) : owedAfter c 0 = O₀ c := rfl

theorem owedAfter_step (c : Dev nD) (n : ℕ) (p : GSem nD τ sig × ℕ) (l : List (GSem nD τ sig × ℕ))
    (h : (payList c).drop n = p :: l) : owedAfter c n = owedAfter c (n + 1) + tallyAt p.1 () p.2 := by
  unfold owedAfter
  rw [h, owedOf_cons, ← List.drop_drop, h]
  rfl

theorem owedAfter_end (c : Dev nD) : owedAfter c 155 = 0 := rfl

end Cert.Kernel.AllReduce

end
-- ==== Proof.Word.BodyShell.lean ====
import proofs.«900438_g7700000000000439_dist_gemm_ar_m1024_k1024_n1024_f32_gelu_v7x_i32_1_alg».proof.Proof.Word.Owed
import proofs.«900438_g7700000000000439_dist_gemm_ar_m1024_k1024_n1024_f32_gelu_v7x_i32_1_alg».proof.Proof.Gen.Kernel.Points

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation from the body's symbolic execution -/

/-- A staging buffer whole at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The statement of the body's symbolic execution on device c: from the ghost state at names K, what the device owes
    at launch, the two staged slabs, the result's staging buffer and the three scratch buffers at any contents, the
    body runs to Φ₁, nothing owed, the slabs as they were and the result's staging buffer at the result. -/
def SoundBody : Prop :=
  ∀ (K : GSem nD τ sig → ℕ) (c : Dev nD) (f2 : Buf (Elt F) ((c : Thread nD τ).loc cc0_stg2_0))
    (f3 : Buf (Elt F) ((c : Thread nD τ).loc cc0_scratch0)) (f4 : Buf (Elt F) ((c : Thread nD τ).loc cc0_scratch1))
    (f5 : Buf (Elt F) ((c : Thread nD τ).loc cc0_scratch2)) (W : Waits sig Unit) (Kt : PUnit → sProp 𝕄),
    iprop(ghost m K c ∗ owes (c : Thread nD τ) (owedAfter c 0) W
        ∗ ((Memref.whole cc0_stg0_0).view.loc (c : Thread nD τ) ↦{fullShare} xIn m c) ∗ ((Memref.whole cc0_stg1_0).view.loc (c : Thread nD τ) ↦{fullShare} wIn m c)
        ∗ ((Memref.whole cc0_stg2_0).view.loc (c : Thread nD τ) ↦{fullShare} f2)
        ∗ ((Memref.whole cc0_scratch0).view.loc (c : Thread nD τ) ↦{fullShare} f3) ∗ ((Memref.whole cc0_scratch1).view.loc (c : Thread nD τ) ↦{fullShare} f4)
        ∗ ((Memref.whole cc0_scratch2).view.loc (c : Thread nD τ) ↦{fullShare} f5)
        ∗ (∀ W', (Φ₁ c ∗ owes (c : Thread nD τ) 0 W' ∗ ((Memref.whole cc0_stg0_0).view.loc (c : Thread nD τ) ↦{fullShare} xIn m c)
              ∗ ((Memref.whole cc0_stg1_0).view.loc (c : Thread nD τ) ↦{fullShare} wIn m c)
              ∗ ((Memref.whole cc0_stg2_0).view.loc (c : Thread nD τ) ↦{fullShare} result m)) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6) Kt

/-- What the pipeline hands the body at the one point. -/
def bodyPre' (c : Dev nD) : sProp 𝕄 :=
  iprop(Φ₀ m c ∗ (dats m ρ 0 c).owesAt () (t0_0 : Fin cfg0.N).castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- What it takes back. -/
def bodyPost (c : Dev nD) : sProp 𝕄 :=
  iprop(Φ₁ c ∗ (dats m ρ 0 c).owesAt () (t0_0 : Fin cfg0.N).succ
    ∗ stg c cc0_stg0_0 (xIn m c) ∗ stg c cc0_stg1_0 (wIn m c) ∗ stg c cc0_stg2_0 (result m))

set_option maxRecDepth 200000 in
/-- The library's body obligation on device c, from the body's symbolic execution. -/
theorem body_obligation (hsound : SoundBody m) (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) (Memref.whole cc0_scratch2) (Memref.isWhole_whole _)
      cc0_scratch3 cc0_scratch4 cc0_scratch5 cc0_scratch6) (fun _ => bodyPost m ρ c)
  unfold bodyPre' Φ₀
  iintro ⟨⟨⟨%K, Hg⟩, ⟨%f3, H3⟩, ⟨%f4, H4⟩, ⟨%f5, H5⟩⟩, Ho, ⟨%d0, %g0, %hg0, Hx⟩, ⟨%d1, %g1, %hg1, Hw⟩, ⟨%d2, %g2, %hg2, Hr⟩⟩
  have hx : g0 = xIn m c := by rw [hg0]; unfold Dat.before; rw [if_pos (fetch0_0 t0_0)]; rfl
  have hw : g1 = wIn m c := by rw [hg1]; unfold Dat.before; rw [if_pos (fetch0_1 t0_0)]; rfl
  subst hx hw
  unfold Dat.owesAt Pipeline.owesWithin
  icases Ho with ⟨%W, %hW, HO⟩
  rw [show (dats m ρ 0 c).owed (t0_0 : Fin cfg0.N).castSucc = owedAfter c 0 from rfl]
  iapply (hsound K c g2 f3 f4 f5 W fun _ => bodyPost m ρ c)
  isplitl [Hg]
  · iexact Hg
  isplitl [HO]
  · iexact HO
  isplitl [Hx]
  · iexact Hx
  isplitl [Hw]
  · iexact Hw
  isplitl [Hr]
  · iexact Hr
  isplitl [H3]
  · iexact H3
  isplitl [H4]
  · iexact H4
  isplitl [H5]
  · iexact H5
  iintro %W' ⟨HΦ, HO', Hx, Hw, Hr⟩
  unfold bodyPost Dat.owesAt Pipeline.owesWithin
  rw [show (dats m ρ 0 c).owed (t0_0 : Fin cfg0.N).succ = 0 from rfl]
  isplitl [HΦ]
  · iexact HΦ
  isplitl [HO']
  · iexists W'
    isplitl []
    · ipureintro; exact fun _ _ => Or.inl trivial
    iexact HO'
  isplitl [Hx]
  · iexists _
    isplitl []
    · ipureintro; rfl
    iexact Hx
  isplitl [Hw]
  · iexists _
    isplitl []
    · ipureintro; rfl
    iexact Hw
  iexists _
  isplitl []
  · ipureintro; rfl
  iexact Hr

end Cert.Kernel.AllReduce

end
-- ==== Proof.Word.Names.lean ====
/-
  The kernel's spelling of its peers, semaphores and chunk views, restated under the protocol's names: the device of
  offset k is `fwd c k`, entry (h, k) of an array is `semAt (arr p) h k`, the source of the reduce copy of offset k is the
  chunk of rows of `fwd c k`, the destination of the gather copy landing at offset k holds the rows of `bwd c k`.
  One lemma per kind over (device, offset), from the closed forms of the printed offset chains; the kernel unrolls each
  31 times, so each has 31 literal instances.
-/
import proofs.«900438_g7700000000000439_dist_gemm_ar_m1024_k1024_n1024_f32_gelu_v7x_i32_1_alg».proof.Proof.Word.Protocol

noncomputable section

namespace Cert.Kernel.AllReduce

open Cert.Kernel Cert.Kernel.Gen
open Idealize.ShloMosaic Idealize.ShloMosaic.TcCoe Idealize.ShloMosaic.Tactic

theorem rect_unit_congr {s : Shape} {o o' : Fin s.rank → Nat} (sz : Fin s.rank → Nat) (h : o = o')
    (i : ∀ a, o a + sz a ≤ s.size a) (i' : ∀ a, o' a + sz a ≤ s.size a) : Rect.unit (s := s) o sz i = Rect.unit (s := s) o' sz i' := by
  subst h; rfl

theorem vec2_ext {a b a' b' : Nat} (h0 : a = a') (h1 : b = b') : (![a, b] : Fin 2 → Nat) = ![a', b'] := by subst h0 h1; rfl

/-- The source of the reduce copy of offset r + 1, half 0: the rows of the device r + 1 places ahead. -/
theorem acc0_eq (c : Dev nD) (r : Fin 31) (k : Fin 32) (hk : k.val = r.val + 1) :
    (Memref.whole cc0_scratch0 : Memref sig .tc .vmem S1024x1024 .bf16).slice (Rect.unit (s := S1024x1024) (k0_off2 c (BitVec.ofNat 32 (1 + r.val))) S32x512.size (k0_off2_inb c r)) (fun _ => rfl)
      = chunk accM (fwd c k) 0 := by
  unfold chunk; congr 1; apply rect_unit_congr; rw [k0_off2_eq]
  exact vec2_ext (by show 32 * ((c.val + r.val + 1) % 32) = 32 * ((c.val + k.val) % 32); rw [hk, Nat.add_assoc]) rfl
theorem acc1_eq (c : Dev nD) (r : Fin 31) (k : Fin 32) (hk : k.val = r.val + 1) :
    (Memref.whole cc0_scratch0 : Memref sig .tc .vmem S1024x1024 .bf16).slice (Rect.unit (s := S1024x1024) (k0_off4 c (BitVec.ofNat 32 (1 + r.val))) S32x512.size (k0_off4_inb c r)) (fun _ => rfl)
      = chunk accM (fwd c k) 1 := by
  unfold chunk; congr 1; apply rect_unit_congr; rw [k0_off4_eq]
  exact vec2_ext (by show 32 * ((c.val + r.val + 1) % 32) = 32 * ((c.val + k.val) % 32); rw [hk, Nat.add_assoc]) rfl
/-- The rows of device c itself in the gather buffer. -/
@[sl_canon] theorem out0_self (c : Dev nD) :
    (Memref.whole cc0_scratch1 : Memref sig .tc .vmem S1024x1024 .bf16).slice (Rect.unit (s := S1024x1024) (k0_off5 c) S32x512.size (k0_off5_inb c)) (fun _ => rfl) = chunk outM c 0 := by
  unfold chunk; congr 1; apply rect_unit_congr; rw [k0_off5_eq]; rfl
@[sl_canon] theorem out1_self (c : Dev nD) :
    (Memref.whole cc0_scratch1 : Memref sig .tc .vmem S1024x1024 .bf16).slice (Rect.unit (s := S1024x1024) (k0_off6 c) S32x512.size (k0_off6_inb c)) (fun _ => rfl) = chunk outM c 1 := by
  unfold chunk; congr 1; apply rect_unit_congr; rw [k0_off6_eq]; rfl
/-- Where the gather copy that lands at offset r + 1 writes: the rows of the device r + 1 places behind. -/
theorem out0_eq (c : Dev nD) (r : Fin 31) (k : Fin 32) (hk : k.val = r.val + 1) :
    (Memref.whole cc0_scratch1 : Memref sig .tc .vmem S1024x1024 .bf16).slice (Rect.unit (s := S1024x1024) (k0_off7 c (BitVec.ofNat 32 (1 + r.val))) S32x512.size (k0_off7_inb c r)) (fun _ => rfl)
      = chunk outM (bwd c k) 0 := by
  unfold chunk; congr 1; apply rect_unit_congr; rw [k0_off7_eq]
  exact vec2_ext (by show 32 * ((c.val + 31 - r.val) % 32) = 32 * ((c.val + 32 - k.val) % 32); rw [hk]; congr 2; have := r.isLt; omega) rfl
theorem out1_eq (c : Dev nD) (r : Fin 31) (k : Fin 32) (hk : k.val = r.val + 1) :
    (Memref.whole cc0_scratch1 : Memref sig .tc .vmem S1024x1024 .bf16).slice (Rect.unit (s := S1024x1024) (k0_off8 c (BitVec.ofNat 32 (1 + r.val))) S32x512.size (k0_off8_inb c r)) (fun _ => rfl)
      = chunk outM (bwd c k) 1 := by
  unfold chunk; congr 1; apply rect_unit_congr; rw [k0_off8_eq]
  exact vec2_ext (by show 32 * ((c.val + 31 - r.val) % 32) = 32 * ((c.val + 32 - k.val) % 32); rw [hk]; congr 2; have := r.isLt; omega) rfl

/-! ## The literal instances -/

@[sl_canon] theorem acc0_1 (c : Dev nD) : (Memref.whole cc0_scratch0 : Memref sig .tc .vmem S1024x1024 .bf16).slice (Rect.unit (s := S1024x1024) (k0_off2 c 1#32) S32x512.size (k0_off2_inb c 0)) (fun _ => rfl) = chunk accM (fwd c 1) 0 := acc0_eq c 0 1 rfl
@[sl_canon] theorem acc1_1 (c : Dev nD) : (Memref.whole cc0_scratch0 : Memref sig .tc .vmem S1024x1024 .bf16).slice (Rect.unit (s := S1024x1024) (k0_off4 c 1#32) S32x512.size (k0_off4_inb c 0)) (fun _ => rfl) = chunk accM (fwd c 1) 1 := acc1_eq c 0 1 rfl
@[sl_canon] theorem out0_1 (c : Dev nD) : (Memref.whole cc0_scratch1 : Memref sig .tc .vmem S1024x1024 .bf16).slice (Rect.unit (s := S1024x1024) (k0_off7 c 1#32) S32x512.size (k0_off7_inb c 0)) (fun _ => rfl) = chunk outM (bwd c 1) 0 := out0_eq c 0 1 rfl
@[sl_canon] theorem out1_1 (c : Dev nD) : (Memref.whole cc0_scratch1 : Memref sig .tc .vmem S1024x1024 .bf16).slice (Rect.unit (s := S1024x1024) (k0_off8 c 1#32) S32x512.size (k0_off8_inb c 0)) (fun _ => rfl) = chunk outM (bwd c 1) 1 := out1_eq c 0 1 rfl
@[sl_canon] theorem acc0_2 (c : Dev nD) : (Memref.whole cc0_scratch0 : Memref sig .tc .vmem S1024x1024 .bf16).slice (Rect.unit (s := S1024x1024) (k0_off2 c 2#32) S32x512.size (k0_off2_inb c 1)) (fun _ => rfl) = chunk accM (fwd c 2) 0 := acc0_eq c 1 2 rfl
@[sl_canon] theorem acc1_2 (c : Dev nD) : (Memref.whole cc0_scratch0 : Memref sig .tc .vmem S1024x1024 .bf16).slice (Rect.unit (s := S1024x1024) (k0_off4 c 2#32) S32x512.size (k0_off4_inb c 1)) (fun _ => rfl) = chunk accM (fwd c 2) 1 := acc1_eq c 1 2 rfl
@[sl_canon] theorem out0_2 (c : Dev nD) : (Memref.whole cc0_scratch1 : Memref sig .tc .vmem S1024x1024 .bf16).slice (Rect.unit (s := S1024x1024) (k0_off7 c 2#32) S32x512.size (k0_off7_inb c 1)) (fun _ => rfl) = chunk outM (bwd c 2) 0 := out0_eq c 1 2 rfl
@[sl_canon] theorem out1_2 (c : Dev nD) : (Memref.whole cc0_scratch1 : Memref sig .tc .vmem S1024x1024 .bf16).slice (Rect.unit (s := S1024x1024) (k0_off8 c 2#32) S32x512.size (k0_off8_inb c 1)) (fun _ => rfl) = chunk outM (bwd c 2) 1 := out1_eq c 1 2 rfl
@[sl_canon] theorem acc0_3 (c : Dev nD) : (Memref.whole cc0_scratch0 : Memref sig .tc .vmem S1024x1024 .bf16).slice (Rect.unit (s := S1024x1024) (k0_off2 c 3#32) S32x512.size (k0_off2_inb c 2)) (fun _ => rfl) = chunk accM (fwd c 3) 0 := acc0_eq c 2 3 rfl
@[sl_canon] theorem acc1_3 (c : Dev nD) : (Memref.whole cc0_scratch0 : Memref sig .tc .vmem S1024x1024 .bf16).slice (Rect.unit (s := S1024x1024) (k0_off4 c 3#32) S32x512.size (k0_off4_inb c 2)) (fun _ => rfl) = chunk accM (fwd c 3) 1 := acc1_eq c 2 3 rfl
@[sl_canon] theorem out0_3 (c : Dev nD) : (Memref.whole cc0_scratch1 : Memref sig .tc .vmem S1024x1024 .bf16).slice (Rect.unit (s := S1024x1024) (k0_off7 c 3#32) S32x512.size (k0_off7_inb c 2)) (fun _ => rfl) = chunk outM (bwd c 3) 0 := out0_eq c 2 3 rfl
@[sl_canon] theorem out1_3 (c : Dev nD) : (Memref.whole cc0_scratch1 : Memref sig .tc .vmem S1024x1024 .bf16).slice (Rect.unit (s := S1024x1024) (k0_off8 c 3#32) S32x512.size (k0_off8_inb c 2)) (fun _ => rfl) = chunk outM (bwd c 3) 1 := out1_eq c 2 3 rfl
@[sl_canon] theorem acc0_4 (c : Dev nD) : (Memref.whole cc0_scratch0 : Memref sig .tc .vmem S1024x1024 .bf16).slice (Rect.unit (s := S1024x1024) (k0_off2 c 4#32) S32x512.size (k0_off2_inb c 3)) (fun _ => rfl) = chunk accM (fwd c 4) 0 := acc0_eq c 3 4 rfl
@[sl_canon] theorem acc1_4 (c : Dev nD) : (Memref.whole cc0_scratch0 : Memref sig .tc .vmem S1024x1024 .bf16).slice (Rect.unit (s := S1024x1024) (k0_off4 c 4#32) S32x512.size (k0_off4_inb c 3)) (fun _ => rfl) = chunk accM (fwd c 4) 1 := acc1_eq c 3 4 rfl
@[sl_canon] theorem out0_4 (c : Dev nD) : (Memref.whole cc0_scratch1 : Memref sig .tc .vmem S1024x1024 .bf16).slice (Rect.unit (s := S1024x1024) (k0_off7 c 4#32) S32x512.size (k0_off7_inb c 3)) (fun _ => rfl) = chunk outM (bwd c 4) 0 := out0_eq c 3 4 rfl
@[sl_canon] theorem out1_4 (c : Dev nD) : (Memref.whole cc0_scratch1 : Memref sig .tc .vmem S1024x1024 .bf16).slice (Rect.unit (s := S1024x1024) (k0_off8 c 4#32) S32x512.size (k0_off8_inb c 3)) (fun _ => rfl) = chunk outM (bwd c 4) 1 := out1_eq c 3 4 rfl
@[sl_canon] theorem acc0_5 (c : Dev nD) : (Memref.whole cc0_scratch0 : Memref sig .tc .vmem S1024x1024 .bf16).slice (Rect.unit (s := S1024x1024) (k0_off2 c 5#32) S32x512.size (k0_off2_inb c 4)) (fun _ => rfl) = chunk accM (fwd c 5) 0 := acc0_eq c 4 5 rfl
@[sl_canon] theorem acc1_5 (c : Dev nD) : (Memref.whole cc0_scratch0 : Memref sig .tc .vmem S1024x1024 .bf16).slice (Rect.unit (s := S1024x1024) (k0_off4 c 5#32) S32x512.size (k0_off4_inb c 4)) (fun _ => rfl) = chunk accM (fwd c 5) 1 := acc1_eq c 4 5 rfl
@[sl_canon] theorem out0_5 (c : Dev nD) : (Memref.whole cc0_scratch1 : Memref sig .tc .vmem S1024x1024 .bf16).slice (Rect.unit (s := S1024x1024) (k0_off7 c 5#32) S32x512.size (k0_off7_inb c 4)) (fun _ => rfl) = chunk outM (bwd c 5) 0 := out0_eq c 4 5 rfl
@[sl_canon] theorem out1_5 (c : Dev nD) : (Memref.whole cc0_scratch1 : Memref sig .tc .vmem S1024x1024 .bf16).slice (Rect.unit (s := S1024x1024) (k0_off8 c 5#32) S32x512.size (k0_off8_inb c 4)) (fun _ => rfl) = chunk outM (bwd c 5) 1 := out1_eq c 4 5 rfl
@[sl_canon] theorem acc0_6 (c : Dev nD) : (Memref.whole cc0_scratch0 : Memref sig .tc .vmem S1024x1024 .bf16).slice (Rect.unit (s := S1024x1024) (k0_off2 c 6#32) S32x512.size (k0_off2_inb c 5)) (fun _ => rfl) = chunk accM (fwd c 6) 0 := acc0_eq c 5 6 rfl
@[sl_canon] theorem acc1_6 (c : Dev nD) : (Memref.whole cc0_scratch0 : Memref sig .tc .vmem S1024x1024 .bf16).slice (Rect.unit (s := S1024x1024) (k0_off4 c 6#32) S32x512.size (k0_off4_inb c 5)) (fun _ => rfl) = chunk accM (fwd c 6) 1 := acc1_eq c 5 6 rfl
@[sl_canon] theorem out0_6 (c : Dev nD) : (Memref.whole cc0_scratch1 : Memref sig .tc .vmem S1024x1024 .bf16).slice (Rect.unit (s := S1024x1024) (k0_off7 c 6#32) S32x512.size (k0_off7_inb c 5)) (fun _ => rfl) = chunk outM (bwd c 6) 0 := out0_eq c 5 6 rfl
@[sl_canon] theorem out1_6 (c : Dev nD) : (Memref.whole cc0_scratch1 : Memref sig .tc .vmem S1024x1024 .bf16).slice (Rect.unit (s := S1024x1024) (k0_off8 c 6#32) S32x512.size (k0_off8_inb c 5)) (fun _ => rfl) = chunk outM (bwd c 6) 1 := out1_eq c 5 6 rfl
@[sl_canon] theorem acc0_7 (c : Dev nD) : (Memref.whole cc0_scratch0 : Memref sig .tc .vmem S1024x1024 .bf16).slice (Rect.unit (s := S1024x1024) (k0_off2 c 7#32) S32x512.size (k0_off2_inb c 6)) (fun _ => rfl) = chunk accM (fwd c 7) 0 := acc0_eq c 6 7 rfl
@[sl_canon] theorem acc1_7 (c : Dev nD) : (Memref.whole cc0_scratch0 : Memref sig .tc .vmem S1024x1024 .bf16).slice (Rect.unit (s := S1024x1024) (k0_off4 c 7#32) S32x512.size (k0_off4_inb c 6)) (fun _ => rfl) = chunk accM (fwd c 7) 1 := acc1_eq c 6 7 rfl
@[sl_canon] theorem out0_7 (c : Dev nD) : (Memref.whole cc0_scratch1 : Memref sig .tc .vmem S1024x1024 .bf16).slice (Rect.unit (s := S1024x1024) (k0_off7 c 7#32) S32x512.size (k0_off7_inb c 6)) (fun _ => rfl) = chunk outM (bwd c 7) 0 := out0_eq c 6 7 rfl
@[sl_canon] theorem out1_7 (c : Dev nD) : (Memref.whole cc0_scratch1 : Memref sig .tc .vmem S1024x1024 .bf16).slice (Rect.unit (s := S1024x1024) (k0_off8 c 7#32) S32x512.size (k0_off8_inb c 6)) (fun _ => rfl) = chunk outM (bwd c 7) 1 := out1_eq c 6 7 rfl
@[sl_canon] theorem acc0_8 (c : Dev nD) : (Memref.whole cc0_scratch0 : Memref sig .tc .vmem S1024x1024 .bf16).slice (Rect.unit (s := S1024x1024) (k0_off2 c 8#32) S32x512.size (k0_off2_inb c 7)) (fun _ => rfl) = chunk accM (fwd c 8) 0 := acc0_eq c 7 8 rfl
@[sl_canon] theorem acc1_8 (c : Dev nD) : (Memref.whole cc0_scratch0 : Memref sig .tc .vmem S1024x1024 .bf16).slice (Rect.unit (s := S1024x1024) (k0_off4 c 8#32) S32x512.size (k0_off4_inb c 7)) (fun _ => rfl) = chunk accM (fwd c 8) 1 := acc1_eq c 7 8 rfl
@[sl_canon] theorem out0_8 (c : Dev nD) : (Memref.whole cc0_scratch1 : Memref sig .tc .vmem S1024x1024 .bf16).slice (Rect.unit (s := S1024x1024) (k0_off7 c 8#32) S32x512.size (k0_off7_inb c 7)) (fun _ => rfl) = chunk outM (bwd c 8) 0 := out0_eq c 7 8 rfl
@[sl_canon] theorem out1_8 (c : Dev nD) : (Memref.whole cc0_scratch1 : Memref sig .tc .vmem S1024x1024 .bf16).slice (Rect.unit (s := S1024x1024) (k0_off8 c 8#32) S32x512.size (k0_off8_inb c 7)) (fun _ => rfl) = chunk outM (bwd c 8) 1 := out1_eq c 7 8 rfl
@[sl_canon] theorem acc0_9 (c : Dev nD) : (Memref.whole cc0_scratch0 : Memref sig .tc .vmem S1024x1024 .bf16).slice (Rect.unit (s := S1024x1024) (k0_off2 c 9#32) S32x512.size (k0_off2_inb c 8)) (fun _ => rfl) = chunk accM (fwd c 9) 0 := acc0_eq c 8 9 rfl
@[sl_canon] theorem acc1_9 (c : Dev nD) : (Memref.whole cc0_scratch0 : Memref sig .tc .vmem S1024x1024 .bf16).slice (Rect.unit (s := S1024x1024) (k0_off4 c 9#32) S32x512.size (k0_off4_inb c 8)) (fun _ => rfl) = chunk accM (fwd c 9) 1 := acc1_eq c 8 9 rfl
@[sl_canon] theorem out0_9 (c : Dev nD) : (Memref.whole cc0_scratch1 : Memref sig .tc .vmem S1024x1024 .bf16).slice (Rect.unit (s := S1024x1024) (k0_off7 c 9#32) S32x512.size (k0_off7_inb c 8)) (fun _ => rfl) = chunk outM (bwd c 9) 0 := out0_eq c 8 9 rfl
@[sl_canon] theorem out1_9 (c : Dev nD) : (Memref.whole cc0_scratch1 : Memref sig .tc .vmem S1024x1024 .bf16).slice (Rect.unit (s := S1024x1024) (k0_off8 c 9#32) S32x512.size (k0_off8_inb c 8)) (fun _ => rfl) = chunk outM (bwd c 9) 1 := out1_eq c 8 9 rfl
@[sl_canon] theorem acc0_10 (c : Dev nD) : (Memref.whole cc0_scratch0 : Memref sig .tc .vmem S1024x1024 .bf16).slice (Rect.unit (s := S1024x1024) (k0_off2 c 10#32) S32x512.size (k0_off2_inb c 9)) (fun _ => rfl) = chunk accM (fwd c 10) 0 := acc0_eq c 9 10 rfl
@[sl_canon] theorem acc1_10 (c : Dev nD) : (Memref.whole cc0_scratch0 : Memref sig .tc .vmem S1024x1024 .bf16).slice (Rect.unit (s := S1024x1024) (k0_off4 c 10#32) S32x512.size (k0_off4_inb c 9)) (fun _ => rfl) = chunk accM (fwd c 10) 1 := acc1_eq c 9 10 rfl
@[sl_canon] theorem out0_10 (c : Dev nD) : (Memref.whole cc0_scratch1 : Memref sig .tc .vmem S1024x1024 .bf16).slice (Rect.unit (s := S1024x1024) (k0_off7 c 10#32) S32x512.size (k0_off7_inb c 9)) (fun _ => rfl) = chunk outM (bwd c 10) 0 := out0_eq c 9 10 rfl
@[sl_canon] theorem out1_10 (c : Dev nD) : (Memref.whole cc0_scratch1 : Memref sig .tc .vmem S1024x1024 .bf16).slice (Rect.unit (s := S1024x1024) (k0_off8 c 10#32) S32x512.size (k0_off8_inb c 9)) (fun _ => rfl) = chunk outM (bwd c 10) 1 := out1_eq c 9 10 rfl
@[sl_canon] theorem acc0_11 (c : Dev nD) : (Memref.whole cc0_scratch0 : Memref sig .tc .vmem S1024x1024 .bf16).slice (Rect.unit (s := S1024x1024) (k0_off2 c 11#32) S32x512.size (k0_off2_inb c 10)) (fun _ => rfl) = chunk accM (fwd c 11) 0 := acc0_eq c 10 11 rfl
@[sl_canon] theorem acc1_11 (c : Dev nD) : (Memref.whole cc0_scratch0 : Memref sig .tc .vmem S1024x1024 .bf16).slice (Rect.unit (s := S1024x1024) (k0_off4 c 11#32) S32x512.size (k0_off4_inb c 10)) (fun _ => rfl) = chunk accM (fwd c 11) 1 := acc1_eq c 10 11 rfl
@[sl_canon] theorem out0_11 (c : Dev nD) : (Memref.whole cc0_scratch1 : Memref sig .tc .vmem S1024x1024 .bf16).slice (Rect.unit (s := S1024x1024) (k0_off7 c 11#32) S32x512.size (k0_off7_inb c 10)) (fun _ => rfl) = chunk outM (bwd c 11) 0 := out0_eq c 10 11 rfl
@[sl_canon] theorem out1_11 (c : Dev nD) : (Memref.whole cc0_scratch1 : Memref sig .tc .vmem S1024x1024 .bf16).slice (Rect.unit (s := S1024x1024) (k0_off8 c 11#32) S32x512.size (k0_off8_inb c 10)) (fun _ => rfl) = chunk outM (bwd c 11) 1 := out1_eq c 10 11 rfl
@[sl_canon] theorem acc0_12 (c : Dev nD) : (Memref.whole cc0_scratch0 : Memref sig .tc .vmem S1024x1024 .bf16).slice (Rect.unit (s := S1024x1024) (k0_off2 c 12#32) S32x512.size (k0_off2_inb c 11)) (fun _ => rfl) = chunk accM (fwd c 12) 0 := acc0_eq c 11 12 rfl
@[sl_canon] theorem acc1_12 (c : Dev nD) : (Memref.whole cc0_scratch0 : Memref sig .tc .vmem S1024x1024 .bf16).slice (Rect.unit (s := S1024x1024) (k0_off4 c 12#32) S32x512.size (k0_off4_inb c 11)) (fun _ => rfl) = chunk accM (fwd c 12) 1 := acc1_eq c 11 12 rfl
@[sl_canon] theorem out0_12 (c : Dev nD) : (Memref.whole cc0_scratch1 : Memref sig .tc .vmem S1024x1024 .bf16).slice (Rect.unit (s := S1024x1024) (k0_off7 c 12#32) S32x512.size (k0_off7_inb c 11)) (fun _ => rfl) = chunk outM (bwd c 12) 0 := out0_eq c 11 12 rfl
@[sl_canon] theorem out1_12 (c : Dev nD) : (Memref.whole cc0_scratch1 : Memref sig .tc .vmem S1024x1024 .bf16).slice (Rect.unit (s := S1024x1024) (k0_off8 c 12#32) S32x512.size (k0_off8_inb c 11)) (fun _ => rfl) = chunk outM (bwd c 12) 1 := out1_eq c 11 12 rfl
@[sl_canon] theorem acc0_13 (c : Dev nD) : (Memref.whole cc0_scratch0 : Memref sig .tc .vmem S1024x1024 .bf16).slice (Rect.unit (s := S1024x1024) (k0_off2 c 13#32) S32x512.size (k0_off2_inb c 12)) (fun _ => rfl) = chunk accM (fwd c 13) 0 := acc0_eq c 12 13 rfl
@[sl_canon] theorem acc1_13 (c : Dev nD) : (Memref.whole cc0_scratch0 : Memref sig .tc .vmem S1024x1024 .bf16).slice (Rect.unit (s := S1024x1024) (k0_off4 c 13#32) S32x512.size (k0_off4_inb c 12)) (fun _ => rfl) = chunk accM (fwd c 13) 1 := acc1_eq c 12 13 rfl
@[sl_canon] theorem out0_13 (c : Dev nD) : (Memref.whole cc0_scratch1 : Memref sig .tc .vmem S1024x1024 .bf16).slice (Rect.unit (s := S1024x1024) (k0_off7 c 13#32) S32x512.size (k0_off7_inb c 12)) (fun _ => rfl) = chunk outM (bwd c 13) 0 := out0_eq c 12 13 rfl
@[sl_canon] theorem out1_13 (c : Dev nD) : (Memref.whole cc0_scratch1 : Memref sig .tc .vmem S1024x1024 .bf16).slice (Rect.unit (s := S1024x1024) (k0_off8 c 13#32) S32x512.size (k0_off8_inb c 12)) (fun _ => rfl) = chunk outM (bwd c 13) 1 := out1_eq c 12 13 rfl
@[sl_canon] theorem acc0_14 (c : Dev nD) : (Memref.whole cc0_scratch0 : Memref sig .tc .vmem S1024x1024 .bf16).slice (Rect.unit (s := S1024x1024) (k0_off2 c 14#32) S32x512.size (k0_off2_inb c 13)) (fun _ => rfl) = chunk accM (fwd c 14) 0 := acc0_eq c 13 14 rfl
@[sl_canon] theorem acc1_14 (c : Dev nD) : (Memref.whole cc0_scratch0 : Memref sig .tc .vmem S1024x1024 .bf16).slice (Rect.unit (s := S1024x1024) (k0_off4 c 14#32) S32x512.size (k0_off4_inb c 13)) (fun _ => rfl) = chunk accM (fwd c 14) 1 := acc1_eq c 13 14 rfl
@[sl_canon] theorem out0_14 (c : Dev nD) : (Memref.whole cc0_scratch1 : Memref sig .tc .vmem S1024x1024 .bf16).slice (Rect.unit (s := S1024x1024) (k0_off7 c 14#32) S32x512.size (k0_off7_inb c 13)) (fun _ => rfl) = chunk outM (bwd c 14) 0 := out0_eq c 13 14 rfl
@[sl_canon] theorem out1_14 (c : Dev nD) : (Memref.whole cc0_scratch1 : Memref sig .tc .vmem S1024x1024 .bf16).slice (Rect.unit (s := S1024x1024) (k0_off8 c 14#32) S32x512.size (k0_off8_inb c 13)) (fun _ => rfl) = chunk outM (bwd c 14) 1 := out1_eq c 13 14 rfl
@[sl_canon] theorem acc0_15 (c : Dev nD) : (Memref.whole cc0_scratch0 : Memref sig .tc .vmem S1024x1024 .bf16).slice (Rect.unit (s := S1024x1024) (k0_off2 c 15#32) S32x512.size (k0_off2_inb c 14)) (fun _ => rfl) = chunk accM (fwd c 15) 0 := acc0_eq c 14 15 rfl
@[sl_canon] theorem acc1_15 (c : Dev nD) : (Memref.whole cc0_scratch0 : Memref sig .tc .vmem S1024x1024 .bf16).slice (Rect.unit (s := S1024x1024) (k0_off4 c 15#32) S32x512.size (k0_off4_inb c 14)) (fun _ => rfl) = chunk accM (fwd c 15) 1 := acc1_eq c 14 15 rfl
@[sl_canon] theorem out0_15 (c : Dev nD) : (Memref.whole cc0_scratch1 : Memref sig .tc .vmem S1024x1024 .bf16).slice (Rect.unit (s := S1024x1024) (k0_off7 c 15#32) S32x512.size (k0_off7_inb c 14)) (fun _ => rfl) = chunk outM (bwd c 15) 0 := out0_eq c 14 15 rfl
@[sl_canon] theorem out1_15 (c : Dev nD) : (Memref.whole cc0_scratch1 : Memref sig .tc .vmem S1024x1024 .bf16).slice (Rect.unit (s := S1024x1024) (k0_off8 c 15#32) S32x512.size (k0_off8_inb c 14)) (fun _ => rfl) = chunk outM (bwd c 15) 1 := out1_eq c 14 15 rfl
@[sl_canon] theorem acc0_16 (c : Dev nD) : (Memref.whole cc0_scratch0 : Memref sig .tc .vmem S1024x1024 .bf16).slice (Rect.unit (s := S1024x1024) (k0_off2 c 16#32) S32x512.size (k0_off2_inb c 15)) (fun _ => rfl) = chunk accM (fwd c 16) 0 := acc0_eq c 15 16 rfl
@[sl_canon] theorem acc1_16 (c : Dev nD) : (Memref.whole cc0_scratch0 : Memref sig .tc .vmem S1024x1024 .bf16).slice (Rect.unit (s := S1024x1024) (k0_off4 c 16#32) S32x512.size (k0_off4_inb c 15)) (fun _ => rfl) = chunk accM (fwd c 16) 1 := acc1_eq c 15 16 rfl
@[sl_canon] theorem out0_16 (c : Dev nD) : (Memref.whole cc0_scratch1 : Memref sig .tc .vmem S1024x1024 .bf16).slice (Rect.unit (s := S1024x1024) (k0_off7 c 16#32) S32x512.size (k0_off7_inb c 15)) (fun _ => rfl) = chunk outM (bwd c 16) 0 := out0_eq c 15 16 rfl
@[sl_canon] theorem out1_16 (c : Dev nD) : (Memref.whole cc0_scratch1 : Memref sig .tc .vmem S1024x1024 .bf16).slice (Rect.unit (s := S1024x1024) (k0_off8 c 16#32) S32x512.size (k0_off8_inb c 15)) (fun _ => rfl) = chunk outM (bwd c 16) 1 := out1_eq c 15 16 rfl
@[sl_canon] theorem acc0_17 (c : Dev nD) : (Memref.whole cc0_scratch0 : Memref sig .tc .vmem S1024x1024 .bf16).slice (Rect.unit (s := S1024x1024) (k0_off2 c 17#32) S32x512.size (k0_off2_inb c 16)) (fun _ => rfl) = chunk accM (fwd c 17) 0 := acc0_eq c 16 17 rfl
@[sl_canon] theorem acc1_17 (c : Dev nD) : (Memref.whole cc0_scratch0 : Memref sig .tc .vmem S1024x1024 .bf16).slice (Rect.unit (s := S1024x1024) (k0_off4 c 17#32) S32x512.size (k0_off4_inb c 16)) (fun _ => rfl) = chunk accM (fwd c 17) 1 := acc1_eq c 16 17 rfl
@[sl_canon] theorem out0_17 (c : Dev nD) : (Memref.whole cc0_scratch1 : Memref sig .tc .vmem S1024x1024 .bf16).slice (Rect.unit (s := S1024x1024) (k0_off7 c 17#32) S32x512.size (k0_off7_inb c 16)) (fun _ => rfl) = chunk outM (bwd c 17) 0 := out0_eq c 16 17 rfl
@[sl_canon] theorem out1_17 (c : Dev nD) : (Memref.whole cc0_scratch1 : Memref sig .tc .vmem S1024x1024 .bf16).slice (Rect.unit (s := S1024x1024) (k0_off8 c 17#32) S32x512.size (k0_off8_inb c 16)) (fun _ => rfl) = chunk outM (bwd c 17) 1 := out1_eq c 16 17 rfl
@[sl_canon] theorem acc0_18 (c : Dev nD) : (Memref.whole cc0_scratch0 : Memref sig .tc .vmem S1024x1024 .bf16).slice (Rect.unit (s := S1024x1024) (k0_off2 c 18#32) S32x512.size (k0_off2_inb c 17)) (fun _ => rfl) = chunk accM (fwd c 18) 0 := acc0_eq c 17 18 rfl
@[sl_canon] theorem acc1_18 (c : Dev nD) : (Memref.whole cc0_scratch0 : Memref sig .tc .vmem S1024x1024 .bf16).slice (Rect.unit (s := S1024x1024) (k0_off4 c 18#32) S32x512.size (k0_off4_inb c 17)) (fun _ => rfl) = chunk accM (fwd c 18) 1 := acc1_eq c 17 18 rfl
@[sl_canon] theorem out0_18 (c : Dev nD) : (Memref.whole cc0_scratch1 : Memref sig .tc .vmem S1024x1024 .bf16).slice (Rect.unit (s := S1024x1024) (k0_off7 c 18#32) S32x512.size (k0_off7_inb c 17)) (fun _ => rfl) = chunk outM (bwd c 18) 0 := out0_eq c 17 18 rfl
@[sl_canon] theorem out1_18 (c : Dev nD) : (Memref.whole cc0_scratch1 : Memref sig .tc .vmem S1024x1024 .bf16).slice (Rect.unit (s := S1024x1024) (k0_off8 c 18#32) S32x512.size (k0_off8_inb c 17)) (fun _ => rfl) = chunk outM (bwd c 18) 1 := out1_eq c 17 18 rfl
@[sl_canon] theorem acc0_19 (c : Dev nD) : (Memref.whole cc0_scratch0 : Memref sig .tc .vmem S1024x1024 .bf16).slice (Rect.unit (s := S1024x1024) (k0_off2 c 19#32) S32x512.size (k0_off2_inb c 18)) (fun _ => rfl) = chunk accM (fwd c 19) 0 := acc0_eq c 18 19 rfl
@[sl_canon] theorem acc1_19 (c : Dev nD) : (Memref.whole cc0_scratch0 : Memref sig .tc .vmem S1024x1024 .bf16).slice (Rect.unit (s := S1024x1024) (k0_off4 c 19#32) S32x512.size (k0_off4_inb c 18)) (fun _ => rfl) = chunk accM (fwd c 19) 1 := acc1_eq c 18 19 rfl
@[sl_canon] theorem out0_19 (c : Dev nD) : (Memref.whole cc0_scratch1 : Memref sig .tc .vmem S1024x1024 .bf16).slice (Rect.unit (s := S1024x1024) (k0_off7 c 19#32) S32x512.size (k0_off7_inb c 18)) (fun _ => rfl) = chunk outM (bwd c 19) 0 := out0_eq c 18 19 rfl
@[sl_canon] theorem out1_19 (c : Dev nD) : (Memref.whole cc0_scratch1 : Memref sig .tc .vmem S1024x1024 .bf16).slice (Rect.unit (s := S1024x1024) (k0_off8 c 19#32) S32x512.size (k0_off8_inb c 18)) (fun _ => rfl) = chunk outM (bwd c 19) 1 := out1_eq c 18 19 rfl
@[sl_canon] theorem acc0_20 (c : Dev nD) : (Memref.whole cc0_scratch0 : Memref sig .tc .vmem S1024x1024 .bf16).slice (Rect.unit (s := S1024x1024) (k0_off2 c 20#32) S32x512.size (k0_off2_inb c 19)) (fun _ => rfl) = chunk accM (fwd c 20) 0 := acc0_eq c 19 20 rfl
@[sl_canon] theorem acc1_20 (c : Dev nD) : (Memref.whole cc0_scratch0 : Memref sig .tc .vmem S1024x1024 .bf16).slice (Rect.unit (s := S1024x1024) (k0_off4 c 20#32) S32x512.size (k0_off4_inb c 19)) (fun _ => rfl) = chunk accM (fwd c 20) 1 := acc1_eq c 19 20 rfl
@[sl_canon] theorem out0_20 (c : Dev nD) : (Memref.whole cc0_scratch1 : Memref sig .tc .vmem S1024x1024 .bf16).slice (Rect.unit (s := S1024x1024) (k0_off7 c 20#32) S32x512.size (k0_off7_inb c 19)) (fun _ => rfl) = chunk outM (bwd c 20) 0 := out0_eq c 19 20 rfl
@[sl_canon] theorem out1_20 (c : Dev nD) : (Memref.whole cc0_scratch1 : Memref sig .tc .vmem S1024x1024 .bf16).slice (Rect.unit (s := S1024x1024) (k0_off8 c 20#32) S32x512.size (k0_off8_inb c 19)) (fun _ => rfl) = chunk outM (bwd c 20) 1 := out1_eq c 19 20 rfl
@[sl_canon] theorem acc0_21 (c : Dev nD) : (Memref.whole cc0_scratch0 : Memref sig .tc .vmem S1024x1024 .bf16).slice (Rect.unit (s := S1024x1024) (k0_off2 c 21#32) S32x512.size (k0_off2_inb c 20)) (fun _ => rfl) = chunk accM (fwd c 21) 0 := acc0_eq c 20 21 rfl
@[sl_canon] theorem acc1_21 (c : Dev nD) : (Memref.whole cc0_scratch0 : Memref sig .tc .vmem S1024x1024 .bf16).slice (Rect.unit (s := S1024x1024) (k0_off4 c 21#32) S32x512.size (k0_off4_inb c 20)) (fun _ => rfl) = chunk accM (fwd c 21) 1 := acc1_eq c 20 21 rfl
@[sl_canon] theorem out0_21 (c : Dev nD) : (Memref.whole cc0_scratch1 : Memref sig .tc .vmem S1024x1024 .bf16).slice (Rect.unit (s := S1024x1024) (k0_off7 c 21#32) S32x512.size (k0_off7_inb c 20)) (fun _ => rfl) = chunk outM (bwd c 21) 0 := out0_eq c 20 21 rfl
@[sl_canon] theorem out1_21 (c : Dev nD) : (Memref.whole cc0_scratch1 : Memref sig .tc .vmem S1024x1024 .bf16).slice (Rect.unit (s := S1024x1024) (k0_off8 c 21#32) S32x512.size (k0_off8_inb c 20)) (fun _ => rfl) = chunk outM (bwd c 21) 1 := out1_eq c 20 21 rfl
@[sl_canon] theorem acc0_22 (c : Dev nD) : (Memref.whole cc0_scratch0 : Memref sig .tc .vmem S1024x1024 .bf16).slice (Rect.unit (s := S1024x1024) (k0_off2 c 22#32) S32x512.size (k0_off2_inb c 21)) (fun _ => rfl) = chunk accM (fwd c 22) 0 := acc0_eq c 21 22 rfl
@[sl_canon] theorem acc1_22 (c : Dev nD) : (Memref.whole cc0_scratch0 : Memref sig .tc .vmem S1024x1024 .bf16).slice (Rect.unit (s := S1024x1024) (k0_off4 c 22#32) S32x512.size (k0_off4_inb c 21)) (fun _ => rfl) = chunk accM (fwd c 22) 1 := acc1_eq c 21 22 rfl
@[sl_canon] theorem out0_22 (c : Dev nD) : (Memref.whole cc0_scratch1 : Memref sig .tc .vmem S1024x1024 .bf16).slice (Rect.unit (s := S1024x1024) (k0_off7 c 22#32) S32x512.size (k0_off7_inb c 21)) (fun _ => rfl) = chunk outM (bwd c 22) 0 := out0_eq c 21 22 rfl
@[sl_canon] theorem out1_22 (c : Dev nD) : (Memref.whole cc0_scratch1 : Memref sig .tc .vmem S1024x1024 .bf16).slice (Rect.unit (s := S1024x1024) (k0_off8 c 22#32) S32x512.size (k0_off8_inb c 21)) (fun _ => rfl) = chunk outM (bwd c 22) 1 := out1_eq c 21 22 rfl
@[sl_canon] theorem acc0_23 (c : Dev nD) : (Memref.whole cc0_scratch0 : Memref sig .tc .vmem S1024x1024 .bf16).slice (Rect.unit (s := S1024x1024) (k0_off2 c 23#32) S32x512.size (k0_off2_inb c 22)) (fun _ => rfl) = chunk accM (fwd c 23) 0 := acc0_eq c 22 23 rfl
@[sl_canon] theorem acc1_23 (c : Dev nD) : (Memref.whole cc0_scratch0 : Memref sig .tc .vmem S1024x1024 .bf16).slice (Rect.unit (s := S1024x1024) (k0_off4 c 23#32) S32x512.size (k0_off4_inb c 22)) (fun _ => rfl) = chunk accM (fwd c 23) 1 := acc1_eq c 22 23 rfl
@[sl_canon] theorem out0_23 (c : Dev nD) : (Memref.whole cc0_scratch1 : Memref sig .tc .vmem S1024x1024 .bf16).slice (Rect.unit (s := S1024x1024) (k0_off7 c 23#32) S32x512.size (k0_off7_inb c 22)) (fun _ => rfl) = chunk outM (bwd c 23) 0 := out0_eq c 22 23 rfl
@[sl_canon] theorem out1_23 (c : Dev nD) : (Memref.whole cc0_scratch1 : Memref sig .tc .vmem S1024x1024 .bf16).slice (Rect.unit (s := S1024x1024) (k0_off8 c 23#32) S32x512.size (k0_off8_inb c 22)) (fun _ => rfl) = chunk outM (bwd c 23) 1 := out1_eq c 22 23 rfl
@[sl_canon] theorem acc0_24 (c : Dev nD) : (Memref.whole cc0_scratch0 : Memref sig .tc .vmem S1024x1024 .bf16).slice (Rect.unit (s := S1024x1024) (k0_off2 c 24#32) S32x512.size (k0_off2_inb c 23)) (fun _ => rfl) = chunk accM (fwd c 24) 0 := acc0_eq c 23 24 rfl
@[sl_canon] theorem acc1_24 (c : Dev nD) : (Memref.whole cc0_scratch0 : Memref sig .tc .vmem S1024x1024 .bf16).slice (Rect.unit (s := S1024x1024) (k0_off4 c 24#32) S32x512.size (k0_off4_inb c 23)) (fun _ => rfl) = chunk accM (fwd c 24) 1 := acc1_eq c 23 24 rfl
@[sl_canon] theorem out0_24 (c : Dev nD) : (Memref.whole cc0_scratch1 : Memref sig .tc .vmem S1024x1024 .bf16).slice (Rect.unit (s := S1024x1024) (k0_off7 c 24#32) S32x512.size (k0_off7_inb c 23)) (fun _ => rfl) = chunk outM (bwd c 24) 0 := out0_eq c 23 24 rfl
@[sl_canon] theorem out1_24 (c : Dev nD) : (Memref.whole cc0_scratch1 : Memref sig .tc .vmem S1024x1024 .bf16).slice (Rect.unit (s := S1024x1024) (k0_off8 c 24#32) S32x512.size (k0_off8_inb c 23)) (fun _ => rfl) = chunk outM (bwd c 24) 1 := out1_eq c 23 24 rfl
@[sl_canon] theorem acc0_25 (c : Dev nD) : (Memref.whole cc0_scratch0 : Memref sig .tc .vmem S1024x1024 .bf16).slice (Rect.unit (s := S1024x1024) (k0_off2 c 25#32) S32x512.size (k0_off2_inb c 24)) (fun _ => rfl) = chunk accM (fwd c 25) 0 := acc0_eq c 24 25 rfl
@[sl_canon] theorem acc1_25 (c : Dev nD) : (Memref.whole cc0_scratch0 : Memref sig .tc .vmem S1024x1024 .bf16).slice (Rect.unit (s := S1024x1024) (k0_off4 c 25#32) S32x512.size (k0_off4_inb c 24)) (fun _ => rfl) = chunk accM (fwd c 25) 1 := acc1_eq c 24 25 rfl
@[sl_canon] theorem out0_25 (c : Dev nD) : (Memref.whole cc0_scratch1 : Memref sig .tc .vmem S1024x1024 .bf16).slice (Rect.unit (s := S1024x1024) (k0_off7 c 25#32) S32x512.size (k0_off7_inb c 24)) (fun _ => rfl) = chunk outM (bwd c 25) 0 := out0_eq c 24 25 rfl
@[sl_canon] theorem out1_25 (c : Dev nD) : (Memref.whole cc0_scratch1 : Memref sig .tc .vmem S1024x1024 .bf16).slice (Rect.unit (s := S1024x1024) (k0_off8 c 25#32) S32x512.size (k0_off8_inb c 24)) (fun _ => rfl) = chunk outM (bwd c 25) 1 := out1_eq c 24 25 rfl
@[sl_canon] theorem acc0_26 (c : Dev nD) : (Memref.whole cc0_scratch0 : Memref sig .tc .vmem S1024x1024 .bf16).slice (Rect.unit (s := S1024x1024) (k0_off2 c 26#32) S32x512.size (k0_off2_inb c 25)) (fun _ => rfl) = chunk accM (fwd c 26) 0 := acc0_eq c 25 26 rfl
@[sl_canon] theorem acc1_26 (c : Dev nD) : (Memref.whole cc0_scratch0 : Memref sig .tc .vmem S1024x1024 .bf16).slice (Rect.unit (s := S1024x1024) (k0_off4 c 26#32) S32x512.size (k0_off4_inb c 25)) (fun _ => rfl) = chunk accM (fwd c 26) 1 := acc1_eq c 25 26 rfl
@[sl_canon] theorem out0_26 (c : Dev nD) : (Memref.whole cc0_scratch1 : Memref sig .tc .vmem S1024x1024 .bf16).slice (Rect.unit (s := S1024x1024) (k0_off7 c 26#32) S32x512.size (k0_off7_inb c 25)) (fun _ => rfl) = chunk outM (bwd c 26) 0 := out0_eq c 25 26 rfl
@[sl_canon] theorem out1_26 (c : Dev nD) : (Memref.whole cc0_scratch1 : Memref sig .tc .vmem S1024x1024 .bf16).slice (Rect.unit (s := S1024x1024) (k0_off8 c 26#32) S32x512.size (k0_off8_inb c 25)) (fun _ => rfl) = chunk outM (bwd c 26) 1 := out1_eq c 25 26 rfl
@[sl_canon] theorem acc0_27 (c : Dev nD) : (Memref.whole cc0_scratch0 : Memref sig .tc .vmem S1024x1024 .bf16).slice (Rect.unit (s := S1024x1024) (k0_off2 c 27#32) S32x512.size (k0_off2_inb c 26)) (fun _ => rfl) = chunk accM (fwd c 27) 0 := acc0_eq c 26 27 rfl
@[sl_canon] theorem acc1_27 (c : Dev nD) : (Memref.whole cc0_scratch0 : Memref sig .tc .vmem S1024x1024 .bf16).slice (Rect.unit (s := S1024x1024) (k0_off4 c 27#32) S32x512.size (k0_off4_inb c 26)) (fun _ => rfl) = chunk accM (fwd c 27) 1 := acc1_eq c 26 27 rfl
@[sl_canon] theorem out0_27 (c : Dev nD) : (Memref.whole cc0_scratch1 : Memref sig .tc .vmem S1024x1024 .bf16).slice (Rect.unit (s := S1024x1024) (k0_off7 c 27#32) S32x512.size (k0_off7_inb c 26)) (fun _ => rfl) = chunk outM (bwd c 27) 0 := out0_eq c 26 27 rfl
@[sl_canon] theorem out1_27 (c : Dev nD) : (Memref.whole cc0_scratch1 : Memref sig .tc .vmem S1024x1024 .bf16).slice (Rect.unit (s := S1024x1024) (k0_off8 c 27#32) S32x512.size (k0_off8_inb c 26)) (fun _ => rfl) = chunk outM (bwd c 27) 1 := out1_eq c 26 27 rfl
@[sl_canon] theorem acc0_28 (c : Dev nD) : (Memref.whole cc0_scratch0 : Memref sig .tc .vmem S1024x1024 .bf16).slice (Rect.unit (s := S1024x1024) (k0_off2 c 28#32) S32x512.size (k0_off2_inb c 27)) (fun _ => rfl) = chunk accM (fwd c 28) 0 := acc0_eq c 27 28 rfl
@[sl_canon] theorem acc1_28 (c : Dev nD) : (Memref.whole cc0_scratch0 : Memref sig .tc .vmem S1024x1024 .bf16).slice (Rect.unit (s := S1024x1024) (k0_off4 c 28#32) S32x512.size (k0_off4_inb c 27)) (fun _ => rfl) = chunk accM (fwd c 28) 1 := acc1_eq c 27 28 rfl
@[sl_canon] theorem out0_28 (c : Dev nD) : (Memref.whole cc0_scratch1 : Memref sig .tc .vmem S1024x1024 .bf16).slice (Rect.unit (s := S1024x1024) (k0_off7 c 28#32) S32x512.size (k0_off7_inb c 27)) (fun _ => rfl) = chunk outM (bwd c 28) 0 := out0_eq c 27 28 rfl
@[sl_canon] theorem out1_28 (c : Dev nD) : (Memref.whole cc0_scratch1 : Memref sig .tc .vmem S1024x1024 .bf16).slice (Rect.unit (s := S1024x1024) (k0_off8 c 28#32) S32x512.size (k0_off8_inb c 27)) (fun _ => rfl) = chunk outM (bwd c 28) 1 := out1_eq c 27 28 rfl
@[sl_canon] theorem acc0_29 (c : Dev nD) : (Memref.whole cc0_scratch0 : Memref sig .tc .vmem S1024x1024 .bf16).slice (Rect.unit (s := S1024x1024) (k0_off2 c 29#32) S32x512.size (k0_off2_inb c 28)) (fun _ => rfl) = chunk accM (fwd c 29) 0 := acc0_eq c 28 29 rfl
@[sl_canon] theorem acc1_29 (c : Dev nD) : (Memref.whole cc0_scratch0 : Memref sig .tc .vmem S1024x1024 .bf16).slice (Rect.unit (s := S1024x1024) (k0_off4 c 29#32) S32x512.size (k0_off4_inb c 28)) (fun _ => rfl) = chunk accM (fwd c 29) 1 := acc1_eq c 28 29 rfl
@[sl_canon] theorem out0_29 (c : Dev nD) : (Memref.whole cc0_scratch1 : Memref sig .tc .vmem S1024x1024 .bf16).slice (Rect.unit (s := S1024x1024) (k0_off7 c 29#32) S32x512.size (k0_off7_inb c 28)) (fun _ => rfl) = chunk outM (bwd c 29) 0 := out0_eq c 28 29 rfl
@[sl_canon] theorem out1_29 (c : Dev nD) : (Memref.whole cc0_scratch1 : Memref sig .tc .vmem S1024x1024 .bf16).slice (Rect.unit (s := S1024x1024) (k0_off8 c 29#32) S32x512.size (k0_off8_inb c 28)) (fun _ => rfl) = chunk outM (bwd c 29) 1 := out1_eq c 28 29 rfl
@[sl_canon] theorem acc0_30 (c : Dev nD) : (Memref.whole cc0_scratch0 : Memref sig .tc .vmem S1024x1024 .bf16).slice (Rect.unit (s := S1024x1024) (k0_off2 c 30#32) S32x512.size (k0_off2_inb c 29)) (fun _ => rfl) = chunk accM (fwd c 30) 0 := acc0_eq c 29 30 rfl
@[sl_canon] theorem acc1_30 (c : Dev nD) : (Memref.whole cc0_scratch0 : Memref sig .tc .vmem S1024x1024 .bf16).slice (Rect.unit (s := S1024x1024) (k0_off4 c 30#32) S32x512.size (k0_off4_inb c 29)) (fun _ => rfl) = chunk accM (fwd c 30) 1 := acc1_eq c 29 30 rfl
@[sl_canon] theorem out0_30 (c : Dev nD) : (Memref.whole cc0_scratch1 : Memref sig .tc .vmem S1024x1024 .bf16).slice (Rect.unit (s := S1024x1024) (k0_off7 c 30#32) S32x512.size (k0_off7_inb c 29)) (fun _ => rfl) = chunk outM (bwd c 30) 0 := out0_eq c 29 30 rfl
@[sl_canon] theorem out1_30 (c : Dev nD) : (Memref.whole cc0_scratch1 : Memref sig .tc .vmem S1024x1024 .bf16).slice (Rect.unit (s := S1024x1024) (k0_off8 c 30#32) S32x512.size (k0_off8_inb c 29)) (fun _ => rfl) = chunk outM (bwd c 30) 1 := out1_eq c 29 30 rfl
@[sl_canon] theorem acc0_31 (c : Dev nD) : (Memref.whole cc0_scratch0 : Memref sig .tc .vmem S1024x1024 .bf16).slice (Rect.unit (s := S1024x1024) (k0_off2 c 31#32) S32x512.size (k0_off2_inb c 30)) (fun _ => rfl) = chunk accM (fwd c 31) 0 := acc0_eq c 30 31 rfl
@[sl_canon] theorem acc1_31 (c : Dev nD) : (Memref.whole cc0_scratch0 : Memref sig .tc .vmem S1024x1024 .bf16).slice (Rect.unit (s := S1024x1024) (k0_off4 c 31#32) S32x512.size (k0_off4_inb c 30)) (fun _ => rfl) = chunk accM (fwd c 31) 1 := acc1_eq c 30 31 rfl
@[sl_canon] theorem out0_31 (c : Dev nD) : (Memref.whole cc0_scratch1 : Memref sig .tc .vmem S1024x1024 .bf16).slice (Rect.unit (s := S1024x1024) (k0_off7 c 31#32) S32x512.size (k0_off7_inb c 30)) (fun _ => rfl) = chunk outM (bwd c 31) 0 := out0_eq c 30 31 rfl
@[sl_canon] theorem out1_31 (c : Dev nD) : (Memref.whole cc0_scratch1 : Memref sig .tc .vmem S1024x1024 .bf16).slice (Rect.unit (s := S1024x1024) (k0_off8 c 31#32) S32x512.size (k0_off8_inb c 30)) (fun _ => rfl) = chunk outM (bwd c 31) 1 := out1_eq c 30 31 rfl

/-! ## Slots and semaphores: the kernel's literal slices are the protocol's entries -/

@[sl_canon] theorem slot_0_0 : ((Memref.whole cc0_scratch2 : Memref sig .tc .vmem S2x32x32x512 .bf16).slice (Rect.unit (s := S2x32x32x512) ![0, 0, 0, 0] S1x1x32x512.size inb_S2x32x32x512_S1x1x32x512_0_0_0_0) (fun _ => rfl)).squeeze S32x512 squeezes_S1x1x32x512_S32x512 = slot 0 0 := rfl
@[sl_canon] theorem slot_0_1 : ((Memref.whole cc0_scratch2 : Memref sig .tc .vmem S2x32x32x512 .bf16).slice (Rect.unit (s := S2x32x32x512) ![0, 1, 0, 0] S1x1x32x512.size inb_S2x32x32x512_S1x1x32x512_0_1_0_0) (fun _ => rfl)).squeeze S32x512 squeezes_S1x1x32x512_S32x512 = slot 0 1 := rfl
@[sl_canon] theorem slot_0_2 : ((Memref.whole cc0_scratch2 : Memref sig .tc .vmem S2x32x32x512 .bf16).slice (Rect.unit (s := S2x32x32x512) ![0, 2, 0, 0] S1x1x32x512.size inb_S2x32x32x512_S1x1x32x512_0_2_0_0) (fun _ => rfl)).squeeze S32x512 squeezes_S1x1x32x512_S32x512 = slot 0 2 := rfl
@[sl_canon] theorem slot_0_3 : ((Memref.whole cc0_scratch2 : Memref sig .tc .vmem S2x32x32x512 .bf16).slice (Rect.unit (s := S2x32x32x512) ![0, 3, 0, 0] S1x1x32x512.size inb_S2x32x32x512_S1x1x32x512_0_3_0_0) (fun _ => rfl)).squeeze S32x512 squeezes_S1x1x32x512_S32x512 = slot 0 3 := rfl
@[sl_canon] theorem slot_0_4 : ((Memref.whole cc0_scratch2 : Memref sig .tc .vmem S2x32x32x512 .bf16).slice (Rect.unit (s := S2x32x32x512) ![0, 4, 0, 0] S1x1x32x512.size inb_S2x32x32x512_S1x1x32x512_0_4_0_0) (fun _ => rfl)).squeeze S32x512 squeezes_S1x1x32x512_S32x512 = slot 0 4 := rfl
@[sl_canon] theorem slot_0_5 : ((Memref.whole cc0_scratch2 : Memref sig .tc .vmem S2x32x32x512 .bf16).slice (Rect.unit (s := S2x32x32x512) ![0, 5, 0, 0] S1x1x32x512.size inb_S2x32x32x512_S1x1x32x512_0_5_0_0) (fun _ => rfl)).squeeze S32x512 squeezes_S1x1x32x512_S32x512 = slot 0 5 := rfl
@[sl_canon] theorem slot_0_6 : ((Memref.whole cc0_scratch2 : Memref sig .tc .vmem S2x32x32x512 .bf16).slice (Rect.unit (s := S2x32x32x512) ![0, 6, 0, 0] S1x1x32x512.size inb_S2x32x32x512_S1x1x32x512_0_6_0_0) (fun _ => rfl)).squeeze S32x512 squeezes_S1x1x32x512_S32x512 = slot 0 6 := rfl
@[sl_canon] theorem slot_0_7 : ((Memref.whole cc0_scratch2 : Memref sig .tc .vmem S2x32x32x512 .bf16).slice (Rect.unit (s := S2x32x32x512) ![0, 7, 0, 0] S1x1x32x512.size inb_S2x32x32x512_S1x1x32x512_0_7_0_0) (fun _ => rfl)).squeeze S32x512 squeezes_S1x1x32x512_S32x512 = slot 0 7 := rfl
@[sl_canon] theorem slot_0_8 : ((Memref.whole cc0_scratch2 : Memref sig .tc .vmem S2x32x32x512 .bf16).slice (Rect.unit (s := S2x32x32x512) ![0, 8, 0, 0] S1x1x32x512.size inb_S2x32x32x512_S1x1x32x512_0_8_0_0) (fun _ => rfl)).squeeze S32x512 squeezes_S1x1x32x512_S32x512 = slot 0 8 := rfl
@[sl_canon] theorem slot_0_9 : ((Memref.whole cc0_scratch2 : Memref sig .tc .vmem S2x32x32x512 .bf16).slice (Rect.unit (s := S2x32x32x512) ![0, 9, 0, 0] S1x1x32x512.size inb_S2x32x32x512_S1x1x32x512_0_9_0_0) (fun _ => rfl)).squeeze S32x512 squeezes_S1x1x32x512_S32x512 = slot 0 9 := rfl
@[sl_canon] theorem slot_0_10 : ((Memref.whole cc0_scratch2 : Memref sig .tc .vmem S2x32x32x512 .bf16).slice (Rect.unit (s := S2x32x32x512) ![0, 10, 0, 0] S1x1x32x512.size inb_S2x32x32x512_S1x1x32x512_0_10_0_0) (fun _ => rfl)).squeeze S32x512 squeezes_S1x1x32x512_S32x512 = slot 0 10 := rfl
@[sl_canon] theorem slot_0_11 : ((Memref.whole cc0_scratch2 : Memref sig .tc .vmem S2x32x32x512 .bf16).slice (Rect.unit (s := S2x32x32x512) ![0, 11, 0, 0] S1x1x32x512.size inb_S2x32x32x512_S1x1x32x512_0_11_0_0) (fun _ => rfl)).squeeze S32x512 squeezes_S1x1x32x512_S32x512 = slot 0 11 := rfl
@[sl_canon] theorem slot_0_12 : ((Memref.whole cc0_scratch2 : Memref sig .tc .vmem S2x32x32x512 .bf16).slice (Rect.unit (s := S2x32x32x512) ![0, 12, 0, 0] S1x1x32x512.size inb_S2x32x32x512_S1x1x32x512_0_12_0_0) (fun _ => rfl)).squeeze S32x512 squeezes_S1x1x32x512_S32x512 = slot 0 12 := rfl
@[sl_canon] theorem slot_0_13 : ((Memref.whole cc0_scratch2 : Memref sig .tc .vmem S2x32x32x512 .bf16).slice (Rect.unit (s := S2x32x32x512) ![0, 13, 0, 0] S1x1x32x512.size inb_S2x32x32x512_S1x1x32x512_0_13_0_0) (fun _ => rfl)).squeeze S32x512 squeezes_S1x1x32x512_S32x512 = slot 0 13 := rfl
@[sl_canon] theorem slot_0_14 : ((Memref.whole cc0_scratch2 : Memref sig .tc .vmem S2x32x32x512 .bf16).slice (Rect.unit (s := S2x32x32x512) ![0, 14, 0, 0] S1x1x32x512.size inb_S2x32x32x512_S1x1x32x512_0_14_0_0) (fun _ => rfl)).squeeze S32x512 squeezes_S1x1x32x512_S32x512 = slot 0 14 := rfl
@[sl_canon] theorem slot_0_15 : ((Memref.whole cc0_scratch2 : Memref sig .tc .vmem S2x32x32x512 .bf16).slice (Rect.unit (s := S2x32x32x512) ![0, 15, 0, 0] S1x1x32x512.size inb_S2x32x32x512_S1x1x32x512_0_15_0_0) (fun _ => rfl)).squeeze S32x512 squeezes_S1x1x32x512_S32x512 = slot 0 15 := rfl
@[sl_canon] theorem slot_0_16 : ((Memref.whole cc0_scratch2 : Memref sig .tc .vmem S2x32x32x512 .bf16).slice (Rect.unit (s := S2x32x32x512) ![0, 16, 0, 0] S1x1x32x512.size inb_S2x32x32x512_S1x1x32x512_0_16_0_0) (fun _ => rfl)).squeeze S32x512 squeezes_S1x1x32x512_S32x512 = slot 0 16 := rfl
@[sl_canon] theorem slot_0_17 : ((Memref.whole cc0_scratch2 : Memref sig .tc .vmem S2x32x32x512 .bf16).slice (Rect.unit (s := S2x32x32x512) ![0, 17, 0, 0] S1x1x32x512.size inb_S2x32x32x512_S1x1x32x512_0_17_0_0) (fun _ => rfl)).squeeze S32x512 squeezes_S1x1x32x512_S32x512 = slot 0 17 := rfl
@[sl_canon] theorem slot_0_18 : ((Memref.whole cc0_scratch2 : Memref sig .tc .vmem S2x32x32x512 .bf16).slice (Rect.unit (s := S2x32x32x512) ![0, 18, 0, 0] S1x1x32x512.size inb_S2x32x32x512_S1x1x32x512_0_18_0_0) (fun _ => rfl)).squeeze S32x512 squeezes_S1x1x32x512_S32x512 = slot 0 18 := rfl
@[sl_canon] theorem slot_0_19 : ((Memref.whole cc0_scratch2 : Memref sig .tc .vmem S2x32x32x512 .bf16).slice (Rect.unit (s := S2x32x32x512) ![0, 19, 0, 0] S1x1x32x512.size inb_S2x32x32x512_S1x1x32x512_0_19_0_0) (fun _ => rfl)).squeeze S32x512 squeezes_S1x1x32x512_S32x512 = slot 0 19 := rfl
@[sl_canon] theorem slot_0_20 : ((Memref.whole cc0_scratch2 : Memref sig .tc .vmem S2x32x32x512 .bf16).slice (Rect.unit (s := S2x32x32x512) ![0, 20, 0, 0] S1x1x32x512.size inb_S2x32x32x512_S1x1x32x512_0_20_0_0) (fun _ => rfl)).squeeze S32x512 squeezes_S1x1x32x512_S32x512 = slot 0 20 := rfl
@[sl_canon] theorem slot_0_21 : ((Memref.whole cc0_scratch2 : Memref sig .tc .vmem S2x32x32x512 .bf16).slice (Rect.unit (s := S2x32x32x512) ![0, 21, 0, 0] S1x1x32x512.size inb_S2x32x32x512_S1x1x32x512_0_21_0_0) (fun _ => rfl)).squeeze S32x512 squeezes_S1x1x32x512_S32x512 = slot 0 21 := rfl
@[sl_canon] theorem slot_0_22 : ((Memref.whole cc0_scratch2 : Memref sig .tc .vmem S2x32x32x512 .bf16).slice (Rect.unit (s := S2x32x32x512) ![0, 22, 0, 0] S1x1x32x512.size inb_S2x32x32x512_S1x1x32x512_0_22_0_0) (fun _ => rfl)).squeeze S32x512 squeezes_S1x1x32x512_S32x512 = slot 0 22 := rfl
@[sl_canon] theorem slot_0_23 : ((Memref.whole cc0_scratch2 : Memref sig .tc .vmem S2x32x32x512 .bf16).slice (Rect.unit (s := S2x32x32x512) ![0, 23, 0, 0] S1x1x32x512.size inb_S2x32x32x512_S1x1x32x512_0_23_0_0) (fun _ => rfl)).squeeze S32x512 squeezes_S1x1x32x512_S32x512 = slot 0 23 := rfl
@[sl_canon] theorem slot_0_24 : ((Memref.whole cc0_scratch2 : Memref sig .tc .vmem S2x32x32x512 .bf16).slice (Rect.unit (s := S2x32x32x512) ![0, 24, 0, 0] S1x1x32x512.size inb_S2x32x32x512_S1x1x32x512_0_24_0_0) (fun _ => rfl)).squeeze S32x512 squeezes_S1x1x32x512_S32x512 = slot 0 24 := rfl
@[sl_canon] theorem slot_0_25 : ((Memref.whole cc0_scratch2 : Memref sig .tc .vmem S2x32x32x512 .bf16).slice (Rect.unit (s := S2x32x32x512) ![0, 25, 0, 0] S1x1x32x512.size inb_S2x32x32x512_S1x1x32x512_0_25_0_0) (fun _ => rfl)).squeeze S32x512 squeezes_S1x1x32x512_S32x512 = slot 0 25 := rfl
@[sl_canon] theorem slot_0_26 : ((Memref.whole cc0_scratch2 : Memref sig .tc .vmem S2x32x32x512 .bf16).slice (Rect.unit (s := S2x32x32x512) ![0, 26, 0, 0] S1x1x32x512.size inb_S2x32x32x512_S1x1x32x512_0_26_0_0) (fun _ => rfl)).squeeze S32x512 squeezes_S1x1x32x512_S32x512 = slot 0 26 := rfl
@[sl_canon] theorem slot_0_27 : ((Memref.whole cc0_scratch2 : Memref sig .tc .vmem S2x32x32x512 .bf16).slice (Rect.unit (s := S2x32x32x512) ![0, 27, 0, 0] S1x1x32x512.size inb_S2x32x32x512_S1x1x32x512_0_27_0_0) (fun _ => rfl)).squeeze S32x512 squeezes_S1x1x32x512_S32x512 = slot 0 27 := rfl
@[sl_canon] theorem slot_0_28 : ((Memref.whole cc0_scratch2 : Memref sig .tc .vmem S2x32x32x512 .bf16).slice (Rect.unit (s := S2x32x32x512) ![0, 28, 0, 0] S1x1x32x512.size inb_S2x32x32x512_S1x1x32x512_0_28_0_0) (fun _ => rfl)).squeeze S32x512 squeezes_S1x1x32x512_S32x512 = slot 0 28 := rfl
@[sl_canon] theorem slot_0_29 : ((Memref.whole cc0_scratch2 : Memref sig .tc .vmem S2x32x32x512 .bf16).slice (Rect.unit (s := S2x32x32x512) ![0, 29, 0, 0] S1x1x32x512.size inb_S2x32x32x512_S1x1x32x512_0_29_0_0) (fun _ => rfl)).squeeze S32x512 squeezes_S1x1x32x512_S32x512 = slot 0 29 := rfl
@[sl_canon] theorem slot_0_30 : ((Memref.whole cc0_scratch2 : Memref sig .tc .vmem S2x32x32x512 .bf16).slice (Rect.unit (s := S2x32x32x512) ![0, 30, 0, 0] S1x1x32x512.size inb_S2x32x32x512_S1x1x32x512_0_30_0_0) (fun _ => rfl)).squeeze S32x512 squeezes_S1x1x32x512_S32x512 = slot 0 30 := rfl
@[sl_canon] theorem slot_0_31 : ((Memref.whole cc0_scratch2 : Memref sig .tc .vmem S2x32x32x512 .bf16).slice (Rect.unit (s := S2x32x32x512) ![0, 31, 0, 0] S1x1x32x512.size inb_S2x32x32x512_S1x1x32x512_0_31_0_0) (fun _ => rfl)).squeeze S32x512 squeezes_S1x1x32x512_S32x512 = slot 0 31 := rfl
@[sl_canon] theorem slot_1_0 : ((Memref.whole cc0_scratch2 : Memref sig .tc .vmem S2x32x32x512 .bf16).slice (Rect.unit (s := S2x32x32x512) ![1, 0, 0, 0] S1x1x32x512.size inb_S2x32x32x512_S1x1x32x512_1_0_0_0) (fun _ => rfl)).squeeze S32x512 squeezes_S1x1x32x512_S32x512 = slot 1 0 := rfl
@[sl_canon] theorem slot_1_1 : ((Memref.whole cc0_scratch2 : Memref sig .tc .vmem S2x32x32x512 .bf16).slice (Rect.unit (s := S2x32x32x512) ![1, 1, 0, 0] S1x1x32x512.size inb_S2x32x32x512_S1x1x32x512_1_1_0_0) (fun _ => rfl)).squeeze S32x512 squeezes_S1x1x32x512_S32x512 = slot 1 1 := rfl
@[sl_canon] theorem slot_1_2 : ((Memref.whole cc0_scratch2 : Memref sig .tc .vmem S2x32x32x512 .bf16).slice (Rect.unit (s := S2x32x32x512) ![1, 2, 0, 0] S1x1x32x512.size inb_S2x32x32x512_S1x1x32x512_1_2_0_0) (fun _ => rfl)).squeeze S32x512 squeezes_S1x1x32x512_S32x512 = slot 1 2 := rfl
@[sl_canon] theorem slot_1_3 : ((Memref.whole cc0_scratch2 : Memref sig .tc .vmem S2x32x32x512 .bf16).slice (Rect.unit (s := S2x32x32x512) ![1, 3, 0, 0] S1x1x32x512.size inb_S2x32x32x512_S1x1x32x512_1_3_0_0) (fun _ => rfl)).squeeze S32x512 squeezes_S1x1x32x512_S32x512 = slot 1 3 := rfl
@[sl_canon] theorem slot_1_4 : ((Memref.whole cc0_scratch2 : Memref sig .tc .vmem S2x32x32x512 .bf16).slice (Rect.unit (s := S2x32x32x512) ![1, 4, 0, 0] S1x1x32x512.size inb_S2x32x32x512_S1x1x32x512_1_4_0_0) (fun _ => rfl)).squeeze S32x512 squeezes_S1x1x32x512_S32x512 = slot 1 4 := rfl
@[sl_canon] theorem slot_1_5 : ((Memref.whole cc0_scratch2 : Memref sig .tc .vmem S2x32x32x512 .bf16).slice (Rect.unit (s := S2x32x32x512) ![1, 5, 0, 0] S1x1x32x512.size inb_S2x32x32x512_S1x1x32x512_1_5_0_0) (fun _ => rfl)).squeeze S32x512 squeezes_S1x1x32x512_S32x512 = slot 1 5 := rfl
@[sl_canon] theorem slot_1_6 : ((Memref.whole cc0_scratch2 : Memref sig .tc .vmem S2x32x32x512 .bf16).slice (Rect.unit (s := S2x32x32x512) ![1, 6, 0, 0] S1x1x32x512.size inb_S2x32x32x512_S1x1x32x512_1_6_0_0) (fun _ => rfl)).squeeze S32x512 squeezes_S1x1x32x512_S32x512 = slot 1 6 := rfl
@[sl_canon] theorem slot_1_7 : ((Memref.whole cc0_scratch2 : Memref sig .tc .vmem S2x32x32x512 .bf16).slice (Rect.unit (s := S2x32x32x512) ![1, 7, 0, 0] S1x1x32x512.size inb_S2x32x32x512_S1x1x32x512_1_7_0_0) (fun _ => rfl)).squeeze S32x512 squeezes_S1x1x32x512_S32x512 = slot 1 7 := rfl
@[sl_canon] theorem slot_1_8 : ((Memref.whole cc0_scratch2 : Memref sig .tc .vmem S2x32x32x512 .bf16).slice (Rect.unit (s := S2x32x32x512) ![1, 8, 0, 0] S1x1x32x512.size inb_S2x32x32x512_S1x1x32x512_1_8_0_0) (fun _ => rfl)).squeeze S32x512 squeezes_S1x1x32x512_S32x512 = slot 1 8 := rfl
@[sl_canon] theorem slot_1_9 : ((Memref.whole cc0_scratch2 : Memref sig .tc .vmem S2x32x32x512 .bf16).slice (Rect.unit (s := S2x32x32x512) ![1, 9, 0, 0] S1x1x32x512.size inb_S2x32x32x512_S1x1x32x512_1_9_0_0) (fun _ => rfl)).squeeze S32x512 squeezes_S1x1x32x512_S32x512 = slot 1 9 := rfl
@[sl_canon] theorem slot_1_10 : ((Memref.whole cc0_scratch2 : Memref sig .tc .vmem S2x32x32x512 .bf16).slice (Rect.unit (s := S2x32x32x512) ![1, 10, 0, 0] S1x1x32x512.size inb_S2x32x32x512_S1x1x32x512_1_10_0_0) (fun _ => rfl)).squeeze S32x512 squeezes_S1x1x32x512_S32x512 = slot 1 10 := rfl
@[sl_canon] theorem slot_1_11 : ((Memref.whole cc0_scratch2 : Memref sig .tc .vmem S2x32x32x512 .bf16).slice (Rect.unit (s := S2x32x32x512) ![1, 11, 0, 0] S1x1x32x512.size inb_S2x32x32x512_S1x1x32x512_1_11_0_0) (fun _ => rfl)).squeeze S32x512 squeezes_S1x1x32x512_S32x512 = slot 1 11 := rfl
@[sl_canon] theorem slot_1_12 : ((Memref.whole cc0_scratch2 : Memref sig .tc .vmem S2x32x32x512 .bf16).slice (Rect.unit (s := S2x32x32x512) ![1, 12, 0, 0] S1x1x32x512.size inb_S2x32x32x512_S1x1x32x512_1_12_0_0) (fun _ => rfl)).squeeze S32x512 squeezes_S1x1x32x512_S32x512 = slot 1 12 := rfl
@[sl_canon] theorem slot_1_13 : ((Memref.whole cc0_scratch2 : Memref sig .tc .vmem S2x32x32x512 .bf16).slice (Rect.unit (s := S2x32x32x512) ![1, 13, 0, 0] S1x1x32x512.size inb_S2x32x32x512_S1x1x32x512_1_13_0_0) (fun _ => rfl)).squeeze S32x512 squeezes_S1x1x32x512_S32x512 = slot 1 13 := rfl
@[sl_canon] theorem slot_1_14 : ((Memref.whole cc0_scratch2 : Memref sig .tc .vmem S2x32x32x512 .bf16).slice (Rect.unit (s := S2x32x32x512) ![1, 14, 0, 0] S1x1x32x512.size inb_S2x32x32x512_S1x1x32x512_1_14_0_0) (fun _ => rfl)).squeeze S32x512 squeezes_S1x1x32x512_S32x512 = slot 1 14 := rfl
@[sl_canon] theorem slot_1_15 : ((Memref.whole cc0_scratch2 : Memref sig .tc .vmem S2x32x32x512 .bf16).slice (Rect.unit (s := S2x32x32x512) ![1, 15, 0, 0] S1x1x32x512.size inb_S2x32x32x512_S1x1x32x512_1_15_0_0) (fun _ => rfl)).squeeze S32x512 squeezes_S1x1x32x512_S32x512 = slot 1 15 := rfl
@[sl_canon] theorem slot_1_16 : ((Memref.whole cc0_scratch2 : Memref sig .tc .vmem S2x32x32x512 .bf16).slice (Rect.unit (s := S2x32x32x512) ![1, 16, 0, 0] S1x1x32x512.size inb_S2x32x32x512_S1x1x32x512_1_16_0_0) (fun _ => rfl)).squeeze S32x512 squeezes_S1x1x32x512_S32x512 = slot 1 16 := rfl
@[sl_canon] theorem slot_1_17 : ((Memref.whole cc0_scratch2 : Memref sig .tc .vmem S2x32x32x512 .bf16).slice (Rect.unit (s := S2x32x32x512) ![1, 17, 0, 0] S1x1x32x512.size inb_S2x32x32x512_S1x1x32x512_1_17_0_0) (fun _ => rfl)).squeeze S32x512 squeezes_S1x1x32x512_S32x512 = slot 1 17 := rfl
@[sl_canon] theorem slot_1_18 : ((Memref.whole cc0_scratch2 : Memref sig .tc .vmem S2x32x32x512 .bf16).slice (Rect.unit (s := S2x32x32x512) ![1, 18, 0, 0] S1x1x32x512.size inb_S2x32x32x512_S1x1x32x512_1_18_0_0) (fun _ => rfl)).squeeze S32x512 squeezes_S1x1x32x512_S32x512 = slot 1 18 := rfl
@[sl_canon] theorem slot_1_19 : ((Memref.whole cc0_scratch2 : Memref sig .tc .vmem S2x32x32x512 .bf16).slice (Rect.unit (s := S2x32x32x512) ![1, 19, 0, 0] S1x1x32x512.size inb_S2x32x32x512_S1x1x32x512_1_19_0_0) (fun _ => rfl)).squeeze S32x512 squeezes_S1x1x32x512_S32x512 = slot 1 19 := rfl
@[sl_canon] theorem slot_1_20 : ((Memref.whole cc0_scratch2 : Memref sig .tc .vmem S2x32x32x512 .bf16).slice (Rect.unit (s := S2x32x32x512) ![1, 20, 0, 0] S1x1x32x512.size inb_S2x32x32x512_S1x1x32x512_1_20_0_0) (fun _ => rfl)).squeeze S32x512 squeezes_S1x1x32x512_S32x512 = slot 1 20 := rfl
@[sl_canon] theorem slot_1_21 : ((Memref.whole cc0_scratch2 : Memref sig .tc .vmem S2x32x32x512 .bf16).slice (Rect.unit (s := S2x32x32x512) ![1, 21, 0, 0] S1x1x32x512.size inb_S2x32x32x512_S1x1x32x512_1_21_0_0) (fun _ => rfl)).squeeze S32x512 squeezes_S1x1x32x512_S32x512 = slot 1 21 := rfl
@[sl_canon] theorem slot_1_22 : ((Memref.whole cc0_scratch2 : Memref sig .tc .vmem S2x32x32x512 .bf16).slice (Rect.unit (s := S2x32x32x512) ![1, 22, 0, 0] S1x1x32x512.size inb_S2x32x32x512_S1x1x32x512_1_22_0_0) (fun _ => rfl)).squeeze S32x512 squeezes_S1x1x32x512_S32x512 = slot 1 22 := rfl
@[sl_canon] theorem slot_1_23 : ((Memref.whole cc0_scratch2 : Memref sig .tc .vmem S2x32x32x512 .bf16).slice (Rect.unit (s := S2x32x32x512) ![1, 23, 0, 0] S1x1x32x512.size inb_S2x32x32x512_S1x1x32x512_1_23_0_0) (fun _ => rfl)).squeeze S32x512 squeezes_S1x1x32x512_S32x512 = slot 1 23 := rfl
@[sl_canon] theorem slot_1_24 : ((Memref.whole cc0_scratch2 : Memref sig .tc .vmem S2x32x32x512 .bf16).slice (Rect.unit (s := S2x32x32x512) ![1, 24, 0, 0] S1x1x32x512.size inb_S2x32x32x512_S1x1x32x512_1_24_0_0) (fun _ => rfl)).squeeze S32x512 squeezes_S1x1x32x512_S32x512 = slot 1 24 := rfl
@[sl_canon] theorem slot_1_25 : ((Memref.whole cc0_scratch2 : Memref sig .tc .vmem S2x32x32x512 .bf16).slice (Rect.unit (s := S2x32x32x512) ![1, 25, 0, 0] S1x1x32x512.size inb_S2x32x32x512_S1x1x32x512_1_25_0_0) (fun _ => rfl)).squeeze S32x512 squeezes_S1x1x32x512_S32x512 = slot 1 25 := rfl
@[sl_canon] theorem slot_1_26 : ((Memref.whole cc0_scratch2 : Memref sig .tc .vmem S2x32x32x512 .bf16).slice (Rect.unit (s := S2x32x32x512) ![1, 26, 0, 0] S1x1x32x512.size inb_S2x32x32x512_S1x1x32x512_1_26_0_0) (fun _ => rfl)).squeeze S32x512 squeezes_S1x1x32x512_S32x512 = slot 1 26 := rfl
@[sl_canon] theorem slot_1_27 : ((Memref.whole cc0_scratch2 : Memref sig .tc .vmem S2x32x32x512 .bf16).slice (Rect.unit (s := S2x32x32x512) ![1, 27, 0, 0] S1x1x32x512.size inb_S2x32x32x512_S1x1x32x512_1_27_0_0) (fun _ => rfl)).squeeze S32x512 squeezes_S1x1x32x512_S32x512 = slot 1 27 := rfl
@[sl_canon] theorem slot_1_28 : ((Memref.whole cc0_scratch2 : Memref sig .tc .vmem S2x32x32x512 .bf16).slice (Rect.unit (s := S2x32x32x512) ![1, 28, 0, 0] S1x1x32x512.size inb_S2x32x32x512_S1x1x32x512_1_28_0_0) (fun _ => rfl)).squeeze S32x512 squeezes_S1x1x32x512_S32x512 = slot 1 28 := rfl
@[sl_canon] theorem slot_1_29 : ((Memref.whole cc0_scratch2 : Memref sig .tc .vmem S2x32x32x512 .bf16).slice (Rect.unit (s := S2x32x32x512) ![1, 29, 0, 0] S1x1x32x512.size inb_S2x32x32x512_S1x1x32x512_1_29_0_0) (fun _ => rfl)).squeeze S32x512 squeezes_S1x1x32x512_S32x512 = slot 1 29 := rfl
@[sl_canon] theorem slot_1_30 : ((Memref.whole cc0_scratch2 : Memref sig .tc .vmem S2x32x32x512 .bf16).slice (Rect.unit (s := S2x32x32x512) ![1, 30, 0, 0] S1x1x32x512.size inb_S2x32x32x512_S1x1x32x512_1_30_0_0) (fun _ => rfl)).squeeze S32x512 squeezes_S1x1x32x512_S32x512 = slot 1 30 := rfl
@[sl_canon] theorem slot_1_31 : ((Memref.whole cc0_scratch2 : Memref sig .tc .vmem S2x32x32x512 .bf16).slice (Rect.unit (s := S2x32x32x512) ![1, 31, 0, 0] S1x1x32x512.size inb_S2x32x32x512_S1x1x32x512_1_31_0_0) (fun _ => rfl)).squeeze S32x512 squeezes_S1x1x32x512_S32x512 = slot 1 31 := rfl
@[sl_canon] theorem sem_0_0_1 : ((cc0_scratch3.slice (Rect.unit (s := S2x32) ![0, 1] S1x1.size inb_S2x32_S1x1_0_1)).squeeze S_ squeezes_S1x1_S_).sem = semAt (arr 0) 0 1 := rfl
@[sl_canon] theorem sem_0_0_2 : ((cc0_scratch3.slice (Rect.unit (s := S2x32) ![0, 2] S1x1.size inb_S2x32_S1x1_0_2)).squeeze S_ squeezes_S1x1_S_).sem = semAt (arr 0) 0 2 := rfl
@[sl_canon] theorem sem_0_0_3 : ((cc0_scratch3.slice (Rect.unit (s := S2x32) ![0, 3] S1x1.size inb_S2x32_S1x1_0_3)).squeeze S_ squeezes_S1x1_S_).sem = semAt (arr 0) 0 3 := rfl
@[sl_canon] theorem sem_0_0_4 : ((cc0_scratch3.slice (Rect.unit (s := S2x32) ![0, 4] S1x1.size inb_S2x32_S1x1_0_4)).squeeze S_ squeezes_S1x1_S_).sem = semAt (arr 0) 0 4 := rfl
@[sl_canon] theorem sem_0_0_5 : ((cc0_scratch3.slice (Rect.unit (s := S2x32) ![0, 5] S1x1.size inb_S2x32_S1x1_0_5)).squeeze S_ squeezes_S1x1_S_).sem = semAt (arr 0) 0 5 := rfl
@[sl_canon] theorem sem_0_0_6 : ((cc0_scratch3.slice (Rect.unit (s := S2x32) ![0, 6] S1x1.size inb_S2x32_S1x1_0_6)).squeeze S_ squeezes_S1x1_S_).sem = semAt (arr 0) 0 6 := rfl
@[sl_canon] theorem sem_0_0_7 : ((cc0_scratch3.slice (Rect.unit (s := S2x32) ![0, 7] S1x1.size inb_S2x32_S1x1_0_7)).squeeze S_ squeezes_S1x1_S_).sem = semAt (arr 0) 0 7 := rfl
@[sl_canon] theorem sem_0_0_8 : ((cc0_scratch3.slice (Rect.unit (s := S2x32) ![0, 8] S1x1.size inb_S2x32_S1x1_0_8)).squeeze S_ squeezes_S1x1_S_).sem = semAt (arr 0) 0 8 := rfl
@[sl_canon] theorem sem_0_0_9 : ((cc0_scratch3.slice (Rect.unit (s := S2x32) ![0, 9] S1x1.size inb_S2x32_S1x1_0_9)).squeeze S_ squeezes_S1x1_S_).sem = semAt (arr 0) 0 9 := rfl
@[sl_canon] theorem sem_0_0_10 : ((cc0_scratch3.slice (Rect.unit (s := S2x32) ![0, 10] S1x1.size inb_S2x32_S1x1_0_10)).squeeze S_ squeezes_S1x1_S_).sem = semAt (arr 0) 0 10 := rfl
@[sl_canon] theorem sem_0_0_11 : ((cc0_scratch3.slice (Rect.unit (s := S2x32) ![0, 11] S1x1.size inb_S2x32_S1x1_0_11)).squeeze S_ squeezes_S1x1_S_).sem = semAt (arr 0) 0 11 := rfl
@[sl_canon] theorem sem_0_0_12 : ((cc0_scratch3.slice (Rect.unit (s := S2x32) ![0, 12] S1x1.size inb_S2x32_S1x1_0_12)).squeeze S_ squeezes_S1x1_S_).sem = semAt (arr 0) 0 12 := rfl
@[sl_canon] theorem sem_0_0_13 : ((cc0_scratch3.slice (Rect.unit (s := S2x32) ![0, 13] S1x1.size inb_S2x32_S1x1_0_13)).squeeze S_ squeezes_S1x1_S_).sem = semAt (arr 0) 0 13 := rfl
@[sl_canon] theorem sem_0_0_14 : ((cc0_scratch3.slice (Rect.unit (s := S2x32) ![0, 14] S1x1.size inb_S2x32_S1x1_0_14)).squeeze S_ squeezes_S1x1_S_).sem = semAt (arr 0) 0 14 := rfl
@[sl_canon] theorem sem_0_0_15 : ((cc0_scratch3.slice (Rect.unit (s := S2x32) ![0, 15] S1x1.size inb_S2x32_S1x1_0_15)).squeeze S_ squeezes_S1x1_S_).sem = semAt (arr 0) 0 15 := rfl
@[sl_canon] theorem sem_0_0_16 : ((cc0_scratch3.slice (Rect.unit (s := S2x32) ![0, 16] S1x1.size inb_S2x32_S1x1_0_16)).squeeze S_ squeezes_S1x1_S_).sem = semAt (arr 0) 0 16 := rfl
@[sl_canon] theorem sem_0_0_17 : ((cc0_scratch3.slice (Rect.unit (s := S2x32) ![0, 17] S1x1.size inb_S2x32_S1x1_0_17)).squeeze S_ squeezes_S1x1_S_).sem = semAt (arr 0) 0 17 := rfl
@[sl_canon] theorem sem_0_0_18 : ((cc0_scratch3.slice (Rect.unit (s := S2x32) ![0, 18] S1x1.size inb_S2x32_S1x1_0_18)).squeeze S_ squeezes_S1x1_S_).sem = semAt (arr 0) 0 18 := rfl
@[sl_canon] theorem sem_0_0_19 : ((cc0_scratch3.slice (Rect.unit (s := S2x32) ![0, 19] S1x1.size inb_S2x32_S1x1_0_19)).squeeze S_ squeezes_S1x1_S_).sem = semAt (arr 0) 0 19 := rfl
@[sl_canon] theorem sem_0_0_20 : ((cc0_scratch3.slice (Rect.unit (s := S2x32) ![0, 20] S1x1.size inb_S2x32_S1x1_0_20)).squeeze S_ squeezes_S1x1_S_).sem = semAt (arr 0) 0 20 := rfl
@[sl_canon] theorem sem_0_0_21 : ((cc0_scratch3.slice (Rect.unit (s := S2x32) ![0, 21] S1x1.size inb_S2x32_S1x1_0_21)).squeeze S_ squeezes_S1x1_S_).sem = semAt (arr 0) 0 21 := rfl
@[sl_canon] theorem sem_0_0_22 : ((cc0_scratch3.slice (Rect.unit (s := S2x32) ![0, 22] S1x1.size inb_S2x32_S1x1_0_22)).squeeze S_ squeezes_S1x1_S_).sem = semAt (arr 0) 0 22 := rfl
@[sl_canon] theorem sem_0_0_23 : ((cc0_scratch3.slice (Rect.unit (s := S2x32) ![0, 23] S1x1.size inb_S2x32_S1x1_0_23)).squeeze S_ squeezes_S1x1_S_).sem = semAt (arr 0) 0 23 := rfl
@[sl_canon] theorem sem_0_0_24 : ((cc0_scratch3.slice (Rect.unit (s := S2x32) ![0, 24] S1x1.size inb_S2x32_S1x1_0_24)).squeeze S_ squeezes_S1x1_S_).sem = semAt (arr 0) 0 24 := rfl
@[sl_canon] theorem sem_0_0_25 : ((cc0_scratch3.slice (Rect.unit (s := S2x32) ![0, 25] S1x1.size inb_S2x32_S1x1_0_25)).squeeze S_ squeezes_S1x1_S_).sem = semAt (arr 0) 0 25 := rfl
@[sl_canon] theorem sem_0_0_26 : ((cc0_scratch3.slice (Rect.unit (s := S2x32) ![0, 26] S1x1.size inb_S2x32_S1x1_0_26)).squeeze S_ squeezes_S1x1_S_).sem = semAt (arr 0) 0 26 := rfl
@[sl_canon] theorem sem_0_0_27 : ((cc0_scratch3.slice (Rect.unit (s := S2x32) ![0, 27] S1x1.size inb_S2x32_S1x1_0_27)).squeeze S_ squeezes_S1x1_S_).sem = semAt (arr 0) 0 27 := rfl
@[sl_canon] theorem sem_0_0_28 : ((cc0_scratch3.slice (Rect.unit (s := S2x32) ![0, 28] S1x1.size inb_S2x32_S1x1_0_28)).squeeze S_ squeezes_S1x1_S_).sem = semAt (arr 0) 0 28 := rfl
@[sl_canon] theorem sem_0_0_29 : ((cc0_scratch3.slice (Rect.unit (s := S2x32) ![0, 29] S1x1.size inb_S2x32_S1x1_0_29)).squeeze S_ squeezes_S1x1_S_).sem = semAt (arr 0) 0 29 := rfl
@[sl_canon] theorem sem_0_0_30 : ((cc0_scratch3.slice (Rect.unit (s := S2x32) ![0, 30] S1x1.size inb_S2x32_S1x1_0_30)).squeeze S_ squeezes_S1x1_S_).sem = semAt (arr 0) 0 30 := rfl
@[sl_canon] theorem sem_0_0_31 : ((cc0_scratch3.slice (Rect.unit (s := S2x32) ![0, 31] S1x1.size inb_S2x32_S1x1_0_31)).squeeze S_ squeezes_S1x1_S_).sem = semAt (arr 0) 0 31 := rfl
@[sl_canon] theorem sem_0_1_1 : ((cc0_scratch3.slice (Rect.unit (s := S2x32) ![1, 1] S1x1.size inb_S2x32_S1x1_1_1)).squeeze S_ squeezes_S1x1_S_).sem = semAt (arr 0) 1 1 := rfl
@[sl_canon] theorem sem_0_1_2 : ((cc0_scratch3.slice (Rect.unit (s := S2x32) ![1, 2] S1x1.size inb_S2x32_S1x1_1_2)).squeeze S_ squeezes_S1x1_S_).sem = semAt (arr 0) 1 2 := rfl
@[sl_canon] theorem sem_0_1_3 : ((cc0_scratch3.slice (Rect.unit (s := S2x32) ![1, 3] S1x1.size inb_S2x32_S1x1_1_3)).squeeze S_ squeezes_S1x1_S_).sem = semAt (arr 0) 1 3 := rfl
@[sl_canon] theorem sem_0_1_4 : ((cc0_scratch3.slice (Rect.unit (s := S2x32) ![1, 4] S1x1.size inb_S2x32_S1x1_1_4)).squeeze S_ squeezes_S1x1_S_).sem = semAt (arr 0) 1 4 := rfl
@[sl_canon] theorem sem_0_1_5 : ((cc0_scratch3.slice (Rect.unit (s := S2x32) ![1, 5] S1x1.size inb_S2x32_S1x1_1_5)).squeeze S_ squeezes_S1x1_S_).sem = semAt (arr 0) 1 5 := rfl
@[sl_canon] theorem sem_0_1_6 : ((cc0_scratch3.slice (Rect.unit (s := S2x32) ![1, 6] S1x1.size inb_S2x32_S1x1_1_6)).squeeze S_ squeezes_S1x1_S_).sem = semAt (arr 0) 1 6 := rfl
@[sl_canon] theorem sem_0_1_7 : ((cc0_scratch3.slice (Rect.unit (s := S2x32) ![1, 7] S1x1.size inb_S2x32_S1x1_1_7)).squeeze S_ squeezes_S1x1_S_).sem = semAt (arr 0) 1 7 := rfl
@[sl_canon] theorem sem_0_1_8 : ((cc0_scratch3.slice (Rect.unit (s := S2x32) ![1, 8] S1x1.size inb_S2x32_S1x1_1_8)).squeeze S_ squeezes_S1x1_S_).sem = semAt (arr 0) 1 8 := rfl
@[sl_canon] theorem sem_0_1_9 : ((cc0_scratch3.slice (Rect.unit (s := S2x32) ![1, 9] S1x1.size inb_S2x32_S1x1_1_9)).squeeze S_ squeezes_S1x1_S_).sem = semAt (arr 0) 1 9 := rfl
@[sl_canon] theorem sem_0_1_10 : ((cc0_scratch3.slice (Rect.unit (s := S2x32) ![1, 10] S1x1.size inb_S2x32_S1x1_1_10)).squeeze S_ squeezes_S1x1_S_).sem = semAt (arr 0) 1 10 := rfl
@[sl_canon] theorem sem_0_1_11 : ((cc0_scratch3.slice (Rect.unit (s := S2x32) ![1, 11] S1x1.size inb_S2x32_S1x1_1_11)).squeeze S_ squeezes_S1x1_S_).sem = semAt (arr 0) 1 11 := rfl
@[sl_canon] theorem sem_0_1_12 : ((cc0_scratch3.slice (Rect.unit (s := S2x32) ![1, 12] S1x1.size inb_S2x32_S1x1_1_12)).squeeze S_ squeezes_S1x1_S_).sem = semAt (arr 0) 1 12 := rfl
@[sl_canon] theorem sem_0_1_13 : ((cc0_scratch3.slice (Rect.unit (s := S2x32) ![1, 13] S1x1.size inb_S2x32_S1x1_1_13)).squeeze S_ squeezes_S1x1_S_).sem = semAt (arr 0) 1 13 := rfl
@[sl_canon] theorem sem_0_1_14 : ((cc0_scratch3.slice (Rect.unit (s := S2x32) ![1, 14] S1x1.size inb_S2x32_S1x1_1_14)).squeeze S_ squeezes_S1x1_S_).sem = semAt (arr 0) 1 14 := rfl
@[sl_canon] theorem sem_0_1_15 : ((cc0_scratch3.slice (Rect.unit (s := S2x32) ![1, 15] S1x1.size inb_S2x32_S1x1_1_15)).squeeze S_ squeezes_S1x1_S_).sem = semAt (arr 0) 1 15 := rfl
@[sl_canon] theorem sem_0_1_16 : ((cc0_scratch3.slice (Rect.unit (s := S2x32) ![1, 16] S1x1.size inb_S2x32_S1x1_1_16)).squeeze S_ squeezes_S1x1_S_).sem = semAt (arr 0) 1 16 := rfl
@[sl_canon] theorem sem_0_1_17 : ((cc0_scratch3.slice (Rect.unit (s := S2x32) ![1, 17] S1x1.size inb_S2x32_S1x1_1_17)).squeeze S_ squeezes_S1x1_S_).sem = semAt (arr 0) 1 17 := rfl
@[sl_canon] theorem sem_0_1_18 : ((cc0_scratch3.slice (Rect.unit (s := S2x32) ![1, 18] S1x1.size inb_S2x32_S1x1_1_18)).squeeze S_ squeezes_S1x1_S_).sem = semAt (arr 0) 1 18 := rfl
@[sl_canon] theorem sem_0_1_19 : ((cc0_scratch3.slice (Rect.unit (s := S2x32) ![1, 19] S1x1.size inb_S2x32_S1x1_1_19)).squeeze S_ squeezes_S1x1_S_).sem = semAt (arr 0) 1 19 := rfl
@[sl_canon] theorem sem_0_1_20 : ((cc0_scratch3.slice (Rect.unit (s := S2x32) ![1, 20] S1x1.size inb_S2x32_S1x1_1_20)).squeeze S_ squeezes_S1x1_S_).sem = semAt (arr 0) 1 20 := rfl
@[sl_canon] theorem sem_0_1_21 : ((cc0_scratch3.slice (Rect.unit (s := S2x32) ![1, 21] S1x1.size inb_S2x32_S1x1_1_21)).squeeze S_ squeezes_S1x1_S_).sem = semAt (arr 0) 1 21 := rfl
@[sl_canon] theorem sem_0_1_22 : ((cc0_scratch3.slice (Rect.unit (s := S2x32) ![1, 22] S1x1.size inb_S2x32_S1x1_1_22)).squeeze S_ squeezes_S1x1_S_).sem = semAt (arr 0) 1 22 := rfl
@[sl_canon] theorem sem_0_1_23 : ((cc0_scratch3.slice (Rect.unit (s := S2x32) ![1, 23] S1x1.size inb_S2x32_S1x1_1_23)).squeeze S_ squeezes_S1x1_S_).sem = semAt (arr 0) 1 23 := rfl
@[sl_canon] theorem sem_0_1_24 : ((cc0_scratch3.slice (Rect.unit (s := S2x32) ![1, 24] S1x1.size inb_S2x32_S1x1_1_24)).squeeze S_ squeezes_S1x1_S_).sem = semAt (arr 0) 1 24 := rfl
@[sl_canon] theorem sem_0_1_25 : ((cc0_scratch3.slice (Rect.unit (s := S2x32) ![1, 25] S1x1.size inb_S2x32_S1x1_1_25)).squeeze S_ squeezes_S1x1_S_).sem = semAt (arr 0) 1 25 := rfl
@[sl_canon] theorem sem_0_1_26 : ((cc0_scratch3.slice (Rect.unit (s := S2x32) ![1, 26] S1x1.size inb_S2x32_S1x1_1_26)).squeeze S_ squeezes_S1x1_S_).sem = semAt (arr 0) 1 26 := rfl
@[sl_canon] theorem sem_0_1_27 : ((cc0_scratch3.slice (Rect.unit (s := S2x32) ![1, 27] S1x1.size inb_S2x32_S1x1_1_27)).squeeze S_ squeezes_S1x1_S_).sem = semAt (arr 0) 1 27 := rfl
@[sl_canon] theorem sem_0_1_28 : ((cc0_scratch3.slice (Rect.unit (s := S2x32) ![1, 28] S1x1.size inb_S2x32_S1x1_1_28)).squeeze S_ squeezes_S1x1_S_).sem = semAt (arr 0) 1 28 := rfl
@[sl_canon] theorem sem_0_1_29 : ((cc0_scratch3.slice (Rect.unit (s := S2x32) ![1, 29] S1x1.size inb_S2x32_S1x1_1_29)).squeeze S_ squeezes_S1x1_S_).sem = semAt (arr 0) 1 29 := rfl
@[sl_canon] theorem sem_0_1_30 : ((cc0_scratch3.slice (Rect.unit (s := S2x32) ![1, 30] S1x1.size inb_S2x32_S1x1_1_30)).squeeze S_ squeezes_S1x1_S_).sem = semAt (arr 0) 1 30 := rfl
@[sl_canon] theorem sem_0_1_31 : ((cc0_scratch3.slice (Rect.unit (s := S2x32) ![1, 31] S1x1.size inb_S2x32_S1x1_1_31)).squeeze S_ squeezes_S1x1_S_).sem = semAt (arr 0) 1 31 := rfl
@[sl_canon] theorem sem_1_0_1 : ((cc0_scratch4.slice (Rect.unit (s := S2x32) ![0, 1] S1x1.size inb_S2x32_S1x1_0_1)).squeeze S_ squeezes_S1x1_S_).sem = semAt (arr 1) 0 1 := rfl
@[sl_canon] theorem sem_1_0_2 : ((cc0_scratch4.slice (Rect.unit (s := S2x32) ![0, 2] S1x1.size inb_S2x32_S1x1_0_2)).squeeze S_ squeezes_S1x1_S_).sem = semAt (arr 1) 0 2 := rfl
@[sl_canon] theorem sem_1_0_3 : ((cc0_scratch4.slice (Rect.unit (s := S2x32) ![0, 3] S1x1.size inb_S2x32_S1x1_0_3)).squeeze S_ squeezes_S1x1_S_).sem = semAt (arr 1) 0 3 := rfl
@[sl_canon] theorem sem_1_0_4 : ((cc0_scratch4.slice (Rect.unit (s := S2x32) ![0, 4] S1x1.size inb_S2x32_S1x1_0_4)).squeeze S_ squeezes_S1x1_S_).sem = semAt (arr 1) 0 4 := rfl
@[sl_canon] theorem sem_1_0_5 : ((cc0_scratch4.slice (Rect.unit (s := S2x32) ![0, 5] S1x1.size inb_S2x32_S1x1_0_5)).squeeze S_ squeezes_S1x1_S_).sem = semAt (arr 1) 0 5 := rfl
@[sl_canon] theorem sem_1_0_6 : ((cc0_scratch4.slice (Rect.unit (s := S2x32) ![0, 6] S1x1.size inb_S2x32_S1x1_0_6)).squeeze S_ squeezes_S1x1_S_).sem = semAt (arr 1) 0 6 := rfl
@[sl_canon] theorem sem_1_0_7 : ((cc0_scratch4.slice (Rect.unit (s := S2x32) ![0, 7] S1x1.size inb_S2x32_S1x1_0_7)).squeeze S_ squeezes_S1x1_S_).sem = semAt (arr 1) 0 7 := rfl
@[sl_canon] theorem sem_1_0_8 : ((cc0_scratch4.slice (Rect.unit (s := S2x32) ![0, 8] S1x1.size inb_S2x32_S1x1_0_8)).squeeze S_ squeezes_S1x1_S_).sem = semAt (arr 1) 0 8 := rfl
@[sl_canon] theorem sem_1_0_9 : ((cc0_scratch4.slice (Rect.unit (s := S2x32) ![0, 9] S1x1.size inb_S2x32_S1x1_0_9)).squeeze S_ squeezes_S1x1_S_).sem = semAt (arr 1) 0 9 := rfl
@[sl_canon] theorem sem_1_0_10 : ((cc0_scratch4.slice (Rect.unit (s := S2x32) ![0, 10] S1x1.size inb_S2x32_S1x1_0_10)).squeeze S_ squeezes_S1x1_S_).sem = semAt (arr 1) 0 10 := rfl
@[sl_canon] theorem sem_1_0_11 : ((cc0_scratch4.slice (Rect.unit (s := S2x32) ![0, 11] S1x1.size inb_S2x32_S1x1_0_11)).squeeze S_ squeezes_S1x1_S_).sem = semAt (arr 1) 0 11 := rfl
@[sl_canon] theorem sem_1_0_12 : ((cc0_scratch4.slice (Rect.unit (s := S2x32) ![0, 12] S1x1.size inb_S2x32_S1x1_0_12)).squeeze S_ squeezes_S1x1_S_).sem = semAt (arr 1) 0 12 := rfl
@[sl_canon] theorem sem_1_0_13 : ((cc0_scratch4.slice (Rect.unit (s := S2x32) ![0, 13] S1x1.size inb_S2x32_S1x1_0_13)).squeeze S_ squeezes_S1x1_S_).sem = semAt (arr 1) 0 13 := rfl
@[sl_canon] theorem sem_1_0_14 : ((cc0_scratch4.slice (Rect.unit (s := S2x32) ![0, 14] S1x1.size inb_S2x32_S1x1_0_14)).squeeze S_ squeezes_S1x1_S_).sem = semAt (arr 1) 0 14 := rfl
@[sl_canon] theorem sem_1_0_15 : ((cc0_scratch4.slice (Rect.unit (s := S2x32) ![0, 15] S1x1.size inb_S2x32_S1x1_0_15)).squeeze S_ squeezes_S1x1_S_).sem = semAt (arr 1) 0 15 := rfl
@[sl_canon] theorem sem_1_0_16 : ((cc0_scratch4.slice (Rect.unit (s := S2x32) ![0, 16] S1x1.size inb_S2x32_S1x1_0_16)).squeeze S_ squeezes_S1x1_S_).sem = semAt (arr 1) 0 16 := rfl
@[sl_canon] theorem sem_1_0_17 : ((cc0_scratch4.slice (Rect.unit (s := S2x32) ![0, 17] S1x1.size inb_S2x32_S1x1_0_17)).squeeze S_ squeezes_S1x1_S_).sem = semAt (arr 1) 0 17 := rfl
@[sl_canon] theorem sem_1_0_18 : ((cc0_scratch4.slice (Rect.unit (s := S2x32) ![0, 18] S1x1.size inb_S2x32_S1x1_0_18)).squeeze S_ squeezes_S1x1_S_).sem = semAt (arr 1) 0 18 := rfl
@[sl_canon] theorem sem_1_0_19 : ((cc0_scratch4.slice (Rect.unit (s := S2x32) ![0, 19] S1x1.size inb_S2x32_S1x1_0_19)).squeeze S_ squeezes_S1x1_S_).sem = semAt (arr 1) 0 19 := rfl
@[sl_canon] theorem sem_1_0_20 : ((cc0_scratch4.slice (Rect.unit (s := S2x32) ![0, 20] S1x1.size inb_S2x32_S1x1_0_20)).squeeze S_ squeezes_S1x1_S_).sem = semAt (arr 1) 0 20 := rfl
@[sl_canon] theorem sem_1_0_21 : ((cc0_scratch4.slice (Rect.unit (s := S2x32) ![0, 21] S1x1.size inb_S2x32_S1x1_0_21)).squeeze S_ squeezes_S1x1_S_).sem = semAt (arr 1) 0 21 := rfl
@[sl_canon] theorem sem_1_0_22 : ((cc0_scratch4.slice (Rect.unit (s := S2x32) ![0, 22] S1x1.size inb_S2x32_S1x1_0_22)).squeeze S_ squeezes_S1x1_S_).sem = semAt (arr 1) 0 22 := rfl
@[sl_canon] theorem sem_1_0_23 : ((cc0_scratch4.slice (Rect.unit (s := S2x32) ![0, 23] S1x1.size inb_S2x32_S1x1_0_23)).squeeze S_ squeezes_S1x1_S_).sem = semAt (arr 1) 0 23 := rfl
@[sl_canon] theorem sem_1_0_24 : ((cc0_scratch4.slice (Rect.unit (s := S2x32) ![0, 24] S1x1.size inb_S2x32_S1x1_0_24)).squeeze S_ squeezes_S1x1_S_).sem = semAt (arr 1) 0 24 := rfl
@[sl_canon] theorem sem_1_0_25 : ((cc0_scratch4.slice (Rect.unit (s := S2x32) ![0, 25] S1x1.size inb_S2x32_S1x1_0_25)).squeeze S_ squeezes_S1x1_S_).sem = semAt (arr 1) 0 25 := rfl
@[sl_canon] theorem sem_1_0_26 : ((cc0_scratch4.slice (Rect.unit (s := S2x32) ![0, 26] S1x1.size inb_S2x32_S1x1_0_26)).squeeze S_ squeezes_S1x1_S_).sem = semAt (arr 1) 0 26 := rfl
@[sl_canon] theorem sem_1_0_27 : ((cc0_scratch4.slice (Rect.unit (s := S2x32) ![0, 27] S1x1.size inb_S2x32_S1x1_0_27)).squeeze S_ squeezes_S1x1_S_).sem = semAt (arr 1) 0 27 := rfl
@[sl_canon] theorem sem_1_0_28 : ((cc0_scratch4.slice (Rect.unit (s := S2x32) ![0, 28] S1x1.size inb_S2x32_S1x1_0_28)).squeeze S_ squeezes_S1x1_S_).sem = semAt (arr 1) 0 28 := rfl
@[sl_canon] theorem sem_1_0_29 : ((cc0_scratch4.slice (Rect.unit (s := S2x32) ![0, 29] S1x1.size inb_S2x32_S1x1_0_29)).squeeze S_ squeezes_S1x1_S_).sem = semAt (arr 1) 0 29 := rfl
@[sl_canon] theorem sem_1_0_30 : ((cc0_scratch4.slice (Rect.unit (s := S2x32) ![0, 30] S1x1.size inb_S2x32_S1x1_0_30)).squeeze S_ squeezes_S1x1_S_).sem = semAt (arr 1) 0 30 := rfl
@[sl_canon] theorem sem_1_0_31 : ((cc0_scratch4.slice (Rect.unit (s := S2x32) ![0, 31] S1x1.size inb_S2x32_S1x1_0_31)).squeeze S_ squeezes_S1x1_S_).sem = semAt (arr 1) 0 31 := rfl
@[sl_canon] theorem sem_1_1_1 : ((cc0_scratch4.slice (Rect.unit (s := S2x32) ![1, 1] S1x1.size inb_S2x32_S1x1_1_1)).squeeze S_ squeezes_S1x1_S_).sem = semAt (arr 1) 1 1 := rfl
@[sl_canon] theorem sem_1_1_2 : ((cc0_scratch4.slice (Rect.unit (s := S2x32) ![1, 2] S1x1.size inb_S2x32_S1x1_1_2)).squeeze S_ squeezes_S1x1_S_).sem = semAt (arr 1) 1 2 := rfl
@[sl_canon] theorem sem_1_1_3 : ((cc0_scratch4.slice (Rect.unit (s := S2x32) ![1, 3] S1x1.size inb_S2x32_S1x1_1_3)).squeeze S_ squeezes_S1x1_S_).sem = semAt (arr 1) 1 3 := rfl
@[sl_canon] theorem sem_1_1_4 : ((cc0_scratch4.slice (Rect.unit (s := S2x32) ![1, 4] S1x1.size inb_S2x32_S1x1_1_4)).squeeze S_ squeezes_S1x1_S_).sem = semAt (arr 1) 1 4 := rfl
@[sl_canon] theorem sem_1_1_5 : ((cc0_scratch4.slice (Rect.unit (s := S2x32) ![1, 5] S1x1.size inb_S2x32_S1x1_1_5)).squeeze S_ squeezes_S1x1_S_).sem = semAt (arr 1) 1 5 := rfl
@[sl_canon] theorem sem_1_1_6 : ((cc0_scratch4.slice (Rect.unit (s := S2x32) ![1, 6] S1x1.size inb_S2x32_S1x1_1_6)).squeeze S_ squeezes_S1x1_S_).sem = semAt (arr 1) 1 6 := rfl
@[sl_canon] theorem sem_1_1_7 : ((cc0_scratch4.slice (Rect.unit (s := S2x32) ![1, 7] S1x1.size inb_S2x32_S1x1_1_7)).squeeze S_ squeezes_S1x1_S_).sem = semAt (arr 1) 1 7 := rfl
@[sl_canon] theorem sem_1_1_8 : ((cc0_scratch4.slice (Rect.unit (s := S2x32) ![1, 8] S1x1.size inb_S2x32_S1x1_1_8)).squeeze S_ squeezes_S1x1_S_).sem = semAt (arr 1) 1 8 := rfl
@[sl_canon] theorem sem_1_1_9 : ((cc0_scratch4.slice (Rect.unit (s := S2x32) ![1, 9] S1x1.size inb_S2x32_S1x1_1_9)).squeeze S_ squeezes_S1x1_S_).sem = semAt (arr 1) 1 9 := rfl
@[sl_canon] theorem sem_1_1_10 : ((cc0_scratch4.slice (Rect.unit (s := S2x32) ![1, 10] S1x1.size inb_S2x32_S1x1_1_10)).squeeze S_ squeezes_S1x1_S_).sem = semAt (arr 1) 1 10 := rfl
@[sl_canon] theorem sem_1_1_11 : ((cc0_scratch4.slice (Rect.unit (s := S2x32) ![1, 11] S1x1.size inb_S2x32_S1x1_1_11)).squeeze S_ squeezes_S1x1_S_).sem = semAt (arr 1) 1 11 := rfl
@[sl_canon] theorem sem_1_1_12 : ((cc0_scratch4.slice (Rect.unit (s := S2x32) ![1, 12] S1x1.size inb_S2x32_S1x1_1_12)).squeeze S_ squeezes_S1x1_S_).sem = semAt (arr 1) 1 12 := rfl
@[sl_canon] theorem sem_1_1_13 : ((cc0_scratch4.slice (Rect.unit (s := S2x32) ![1, 13] S1x1.size inb_S2x32_S1x1_1_13)).squeeze S_ squeezes_S1x1_S_).sem = semAt (arr 1) 1 13 := rfl
@[sl_canon] theorem sem_1_1_14 : ((cc0_scratch4.slice (Rect.unit (s := S2x32) ![1, 14] S1x1.size inb_S2x32_S1x1_1_14)).squeeze S_ squeezes_S1x1_S_).sem = semAt (arr 1) 1 14 := rfl
@[sl_canon] theorem sem_1_1_15 : ((cc0_scratch4.slice (Rect.unit (s := S2x32) ![1, 15] S1x1.size inb_S2x32_S1x1_1_15)).squeeze S_ squeezes_S1x1_S_).sem = semAt (arr 1) 1 15 := rfl
@[sl_canon] theorem sem_1_1_16 : ((cc0_scratch4.slice (Rect.unit (s := S2x32) ![1, 16] S1x1.size inb_S2x32_S1x1_1_16)).squeeze S_ squeezes_S1x1_S_).sem = semAt (arr 1) 1 16 := rfl
@[sl_canon] theorem sem_1_1_17 : ((cc0_scratch4.slice (Rect.unit (s := S2x32) ![1, 17] S1x1.size inb_S2x32_S1x1_1_17)).squeeze S_ squeezes_S1x1_S_).sem = semAt (arr 1) 1 17 := rfl
@[sl_canon] theorem sem_1_1_18 : ((cc0_scratch4.slice (Rect.unit (s := S2x32) ![1, 18] S1x1.size inb_S2x32_S1x1_1_18)).squeeze S_ squeezes_S1x1_S_).sem = semAt (arr 1) 1 18 := rfl
@[sl_canon] theorem sem_1_1_19 : ((cc0_scratch4.slice (Rect.unit (s := S2x32) ![1, 19] S1x1.size inb_S2x32_S1x1_1_19)).squeeze S_ squeezes_S1x1_S_).sem = semAt (arr 1) 1 19 := rfl
@[sl_canon] theorem sem_1_1_20 : ((cc0_scratch4.slice (Rect.unit (s := S2x32) ![1, 20] S1x1.size inb_S2x32_S1x1_1_20)).squeeze S_ squeezes_S1x1_S_).sem = semAt (arr 1) 1 20 := rfl
@[sl_canon] theorem sem_1_1_21 : ((cc0_scratch4.slice (Rect.unit (s := S2x32) ![1, 21] S1x1.size inb_S2x32_S1x1_1_21)).squeeze S_ squeezes_S1x1_S_).sem = semAt (arr 1) 1 21 := rfl
@[sl_canon] theorem sem_1_1_22 : ((cc0_scratch4.slice (Rect.unit (s := S2x32) ![1, 22] S1x1.size inb_S2x32_S1x1_1_22)).squeeze S_ squeezes_S1x1_S_).sem = semAt (arr 1) 1 22 := rfl
@[sl_canon] theorem sem_1_1_23 : ((cc0_scratch4.slice (Rect.unit (s := S2x32) ![1, 23] S1x1.size inb_S2x32_S1x1_1_23)).squeeze S_ squeezes_S1x1_S_).sem = semAt (arr 1) 1 23 := rfl
@[sl_canon] theorem sem_1_1_24 : ((cc0_scratch4.slice (Rect.unit (s := S2x32) ![1, 24] S1x1.size inb_S2x32_S1x1_1_24)).squeeze S_ squeezes_S1x1_S_).sem = semAt (arr 1) 1 24 := rfl
@[sl_canon] theorem sem_1_1_25 : ((cc0_scratch4.slice (Rect.unit (s := S2x32) ![1, 25] S1x1.size inb_S2x32_S1x1_1_25)).squeeze S_ squeezes_S1x1_S_).sem = semAt (arr 1) 1 25 := rfl
@[sl_canon] theorem sem_1_1_26 : ((cc0_scratch4.slice (Rect.unit (s := S2x32) ![1, 26] S1x1.size inb_S2x32_S1x1_1_26)).squeeze S_ squeezes_S1x1_S_).sem = semAt (arr 1) 1 26 := rfl
@[sl_canon] theorem sem_1_1_27 : ((cc0_scratch4.slice (Rect.unit (s := S2x32) ![1, 27] S1x1.size inb_S2x32_S1x1_1_27)).squeeze S_ squeezes_S1x1_S_).sem = semAt (arr 1) 1 27 := rfl
@[sl_canon] theorem sem_1_1_28 : ((cc0_scratch4.slice (Rect.unit (s := S2x32) ![1, 28] S1x1.size inb_S2x32_S1x1_1_28)).squeeze S_ squeezes_S1x1_S_).sem = semAt (arr 1) 1 28 := rfl
@[sl_canon] theorem sem_1_1_29 : ((cc0_scratch4.slice (Rect.unit (s := S2x32) ![1, 29] S1x1.size inb_S2x32_S1x1_1_29)).squeeze S_ squeezes_S1x1_S_).sem = semAt (arr 1) 1 29 := rfl
@[sl_canon] theorem sem_1_1_30 : ((cc0_scratch4.slice (Rect.unit (s := S2x32) ![1, 30] S1x1.size inb_S2x32_S1x1_1_30)).squeeze S_ squeezes_S1x1_S_).sem = semAt (arr 1) 1 30 := rfl
@[sl_canon] theorem sem_1_1_31 : ((cc0_scratch4.slice (Rect.unit (s := S2x32) ![1, 31] S1x1.size inb_S2x32_S1x1_1_31)).squeeze S_ squeezes_S1x1_S_).sem = semAt (arr 1) 1 31 := rfl
@[sl_canon] theorem sem_2_0_1 : ((cc0_scratch5.slice (Rect.unit (s := S2x32) ![0, 1] S1x1.size inb_S2x32_S1x1_0_1)).squeeze S_ squeezes_S1x1_S_).sem = semAt (arr 2) 0 1 := rfl
@[sl_canon] theorem sem_2_0_2 : ((cc0_scratch5.slice (Rect.unit (s := S2x32) ![0, 2] S1x1.size inb_S2x32_S1x1_0_2)).squeeze S_ squeezes_S1x1_S_).sem = semAt (arr 2) 0 2 := rfl
@[sl_canon] theorem sem_2_0_3 : ((cc0_scratch5.slice (Rect.unit (s := S2x32) ![0, 3] S1x1.size inb_S2x32_S1x1_0_3)).squeeze S_ squeezes_S1x1_S_).sem = semAt (arr 2) 0 3 := rfl
@[sl_canon] theorem sem_2_0_4 : ((cc0_scratch5.slice (Rect.unit (s := S2x32) ![0, 4] S1x1.size inb_S2x32_S1x1_0_4)).squeeze S_ squeezes_S1x1_S_).sem = semAt (arr 2) 0 4 := rfl
@[sl_canon] theorem sem_2_0_5 : ((cc0_scratch5.slice (Rect.unit (s := S2x32) ![0, 5] S1x1.size inb_S2x32_S1x1_0_5)).squeeze S_ squeezes_S1x1_S_).sem = semAt (arr 2) 0 5 := rfl
@[sl_canon] theorem sem_2_0_6 : ((cc0_scratch5.slice (Rect.unit (s := S2x32) ![0, 6] S1x1.size inb_S2x32_S1x1_0_6)).squeeze S_ squeezes_S1x1_S_).sem = semAt (arr 2) 0 6 := rfl
@[sl_canon] theorem sem_2_0_7 : ((cc0_scratch5.slice (Rect.unit (s := S2x32) ![0, 7] S1x1.size inb_S2x32_S1x1_0_7)).squeeze S_ squeezes_S1x1_S_).sem = semAt (arr 2) 0 7 := rfl
@[sl_canon] theorem sem_2_0_8 : ((cc0_scratch5.slice (Rect.unit (s := S2x32) ![0, 8] S1x1.size inb_S2x32_S1x1_0_8)).squeeze S_ squeezes_S1x1_S_).sem = semAt (arr 2) 0 8 := rfl
@[sl_canon] theorem sem_2_0_9 : ((cc0_scratch5.slice (Rect.unit (s := S2x32) ![0, 9] S1x1.size inb_S2x32_S1x1_0_9)).squeeze S_ squeezes_S1x1_S_).sem = semAt (arr 2) 0 9 := rfl
@[sl_canon] theorem sem_2_0_10 : ((cc0_scratch5.slice (Rect.unit (s := S2x32) ![0, 10] S1x1.size inb_S2x32_S1x1_0_10)).squeeze S_ squeezes_S1x1_S_).sem = semAt (arr 2) 0 10 := rfl
@[sl_canon] theorem sem_2_0_11 : ((cc0_scratch5.slice (Rect.unit (s := S2x32) ![0, 11] S1x1.size inb_S2x32_S1x1_0_11)).squeeze S_ squeezes_S1x1_S_).sem = semAt (arr 2) 0 11 := rfl
@[sl_canon] theorem sem_2_0_12 : ((cc0_scratch5.slice (Rect.unit (s := S2x32) ![0, 12] S1x1.size inb_S2x32_S1x1_0_12)).squeeze S_ squeezes_S1x1_S_).sem = semAt (arr 2) 0 12 := rfl
@[sl_canon] theorem sem_2_0_13 : ((cc0_scratch5.slice (Rect.unit (s := S2x32) ![0, 13] S1x1.size inb_S2x32_S1x1_0_13)).squeeze S_ squeezes_S1x1_S_).sem = semAt (arr 2) 0 13 := rfl
@[sl_canon] theorem sem_2_0_14 : ((cc0_scratch5.slice (Rect.unit (s := S2x32) ![0, 14] S1x1.size inb_S2x32_S1x1_0_14)).squeeze S_ squeezes_S1x1_S_).sem = semAt (arr 2) 0 14 := rfl
@[sl_canon] theorem sem_2_0_15 : ((cc0_scratch5.slice (Rect.unit (s := S2x32) ![0, 15] S1x1.size inb_S2x32_S1x1_0_15)).squeeze S_ squeezes_S1x1_S_).sem = semAt (arr 2) 0 15 := rfl
@[sl_canon] theorem sem_2_0_16 : ((cc0_scratch5.slice (Rect.unit (s := S2x32) ![0, 16] S1x1.size inb_S2x32_S1x1_0_16)).squeeze S_ squeezes_S1x1_S_).sem = semAt (arr 2) 0 16 := rfl
@[sl_canon] theorem sem_2_0_17 : ((cc0_scratch5.slice (Rect.unit (s := S2x32) ![0, 17] S1x1.size inb_S2x32_S1x1_0_17)).squeeze S_ squeezes_S1x1_S_).sem = semAt (arr 2) 0 17 := rfl
@[sl_canon] theorem sem_2_0_18 : ((cc0_scratch5.slice (Rect.unit (s := S2x32) ![0, 18] S1x1.size inb_S2x32_S1x1_0_18)).squeeze S_ squeezes_S1x1_S_).sem = semAt (arr 2) 0 18 := rfl
@[sl_canon] theorem sem_2_0_19 : ((cc0_scratch5.slice (Rect.unit (s := S2x32) ![0, 19] S1x1.size inb_S2x32_S1x1_0_19)).squeeze S_ squeezes_S1x1_S_).sem = semAt (arr 2) 0 19 := rfl
@[sl_canon] theorem sem_2_0_20 : ((cc0_scratch5.slice (Rect.unit (s := S2x32) ![0, 20] S1x1.size inb_S2x32_S1x1_0_20)).squeeze S_ squeezes_S1x1_S_).sem = semAt (arr 2) 0 20 := rfl
@[sl_canon] theorem sem_2_0_21 : ((cc0_scratch5.slice (Rect.unit (s := S2x32) ![0, 21] S1x1.size inb_S2x32_S1x1_0_21)).squeeze S_ squeezes_S1x1_S_).sem = semAt (arr 2) 0 21 := rfl
@[sl_canon] theorem sem_2_0_22 : ((cc0_scratch5.slice (Rect.unit (s := S2x32) ![0, 22] S1x1.size inb_S2x32_S1x1_0_22)).squeeze S_ squeezes_S1x1_S_).sem = semAt (arr 2) 0 22 := rfl
@[sl_canon] theorem sem_2_0_23 : ((cc0_scratch5.slice (Rect.unit (s := S2x32) ![0, 23] S1x1.size inb_S2x32_S1x1_0_23)).squeeze S_ squeezes_S1x1_S_).sem = semAt (arr 2) 0 23 := rfl
@[sl_canon] theorem sem_2_0_24 : ((cc0_scratch5.slice (Rect.unit (s := S2x32) ![0, 24] S1x1.size inb_S2x32_S1x1_0_24)).squeeze S_ squeezes_S1x1_S_).sem = semAt (arr 2) 0 24 := rfl
@[sl_canon] theorem sem_2_0_25 : ((cc0_scratch5.slice (Rect.unit (s := S2x32) ![0, 25] S1x1.size inb_S2x32_S1x1_0_25)).squeeze S_ squeezes_S1x1_S_).sem = semAt (arr 2) 0 25 := rfl
@[sl_canon] theorem sem_2_0_26 : ((cc0_scratch5.slice (Rect.unit (s := S2x32) ![0, 26] S1x1.size inb_S2x32_S1x1_0_26)).squeeze S_ squeezes_S1x1_S_).sem = semAt (arr 2) 0 26 := rfl
@[sl_canon] theorem sem_2_0_27 : ((cc0_scratch5.slice (Rect.unit (s := S2x32) ![0, 27] S1x1.size inb_S2x32_S1x1_0_27)).squeeze S_ squeezes_S1x1_S_).sem = semAt (arr 2) 0 27 := rfl
@[sl_canon] theorem sem_2_0_28 : ((cc0_scratch5.slice (Rect.unit (s := S2x32) ![0, 28] S1x1.size inb_S2x32_S1x1_0_28)).squeeze S_ squeezes_S1x1_S_).sem = semAt (arr 2) 0 28 := rfl
@[sl_canon] theorem sem_2_0_29 : ((cc0_scratch5.slice (Rect.unit (s := S2x32) ![0, 29] S1x1.size inb_S2x32_S1x1_0_29)).squeeze S_ squeezes_S1x1_S_).sem = semAt (arr 2) 0 29 := rfl
@[sl_canon] theorem sem_2_0_30 : ((cc0_scratch5.slice (Rect.unit (s := S2x32) ![0, 30] S1x1.size inb_S2x32_S1x1_0_30)).squeeze S_ squeezes_S1x1_S_).sem = semAt (arr 2) 0 30 := rfl
@[sl_canon] theorem sem_2_0_31 : ((cc0_scratch5.slice (Rect.unit (s := S2x32) ![0, 31] S1x1.size inb_S2x32_S1x1_0_31)).squeeze S_ squeezes_S1x1_S_).sem = semAt (arr 2) 0 31 := rfl
@[sl_canon] theorem sem_2_1_1 : ((cc0_scratch5.slice (Rect.unit (s := S2x32) ![1, 1] S1x1.size inb_S2x32_S1x1_1_1)).squeeze S_ squeezes_S1x1_S_).sem = semAt (arr 2) 1 1 := rfl
@[sl_canon] theorem sem_2_1_2 : ((cc0_scratch5.slice (Rect.unit (s := S2x32) ![1, 2] S1x1.size inb_S2x32_S1x1_1_2)).squeeze S_ squeezes_S1x1_S_).sem = semAt (arr 2) 1 2 := rfl
@[sl_canon] theorem sem_2_1_3 : ((cc0_scratch5.slice (Rect.unit (s := S2x32) ![1, 3] S1x1.size inb_S2x32_S1x1_1_3)).squeeze S_ squeezes_S1x1_S_).sem = semAt (arr 2) 1 3 := rfl
@[sl_canon] theorem sem_2_1_4 : ((cc0_scratch5.slice (Rect.unit (s := S2x32) ![1, 4] S1x1.size inb_S2x32_S1x1_1_4)).squeeze S_ squeezes_S1x1_S_).sem = semAt (arr 2) 1 4 := rfl
@[sl_canon] theorem sem_2_1_5 : ((cc0_scratch5.slice (Rect.unit (s := S2x32) ![1, 5] S1x1.size inb_S2x32_S1x1_1_5)).squeeze S_ squeezes_S1x1_S_).sem = semAt (arr 2) 1 5 := rfl
@[sl_canon] theorem sem_2_1_6 : ((cc0_scratch5.slice (Rect.unit (s := S2x32) ![1, 6] S1x1.size inb_S2x32_S1x1_1_6)).squeeze S_ squeezes_S1x1_S_).sem = semAt (arr 2) 1 6 := rfl
@[sl_canon] theorem sem_2_1_7 : ((cc0_scratch5.slice (Rect.unit (s := S2x32) ![1, 7] S1x1.size inb_S2x32_S1x1_1_7)).squeeze S_ squeezes_S1x1_S_).sem = semAt (arr 2) 1 7 := rfl
@[sl_canon] theorem sem_2_1_8 : ((cc0_scratch5.slice (Rect.unit (s := S2x32) ![1, 8] S1x1.size inb_S2x32_S1x1_1_8)).squeeze S_ squeezes_S1x1_S_).sem = semAt (arr 2) 1 8 := rfl
@[sl_canon] theorem sem_2_1_9 : ((cc0_scratch5.slice (Rect.unit (s := S2x32) ![1, 9] S1x1.size inb_S2x32_S1x1_1_9)).squeeze S_ squeezes_S1x1_S_).sem = semAt (arr 2) 1 9 := rfl
@[sl_canon] theorem sem_2_1_10 : ((cc0_scratch5.slice (Rect.unit (s := S2x32) ![1, 10] S1x1.size inb_S2x32_S1x1_1_10)).squeeze S_ squeezes_S1x1_S_).sem = semAt (arr 2) 1 10 := rfl
@[sl_canon] theorem sem_2_1_11 : ((cc0_scratch5.slice (Rect.unit (s := S2x32) ![1, 11] S1x1.size inb_S2x32_S1x1_1_11)).squeeze S_ squeezes_S1x1_S_).sem = semAt (arr 2) 1 11 := rfl
@[sl_canon] theorem sem_2_1_12 : ((cc0_scratch5.slice (Rect.unit (s := S2x32) ![1, 12] S1x1.size inb_S2x32_S1x1_1_12)).squeeze S_ squeezes_S1x1_S_).sem = semAt (arr 2) 1 12 := rfl
@[sl_canon] theorem sem_2_1_13 : ((cc0_scratch5.slice (Rect.unit (s := S2x32) ![1, 13] S1x1.size inb_S2x32_S1x1_1_13)).squeeze S_ squeezes_S1x1_S_).sem = semAt (arr 2) 1 13 := rfl
@[sl_canon] theorem sem_2_1_14 : ((cc0_scratch5.slice (Rect.unit (s := S2x32) ![1, 14] S1x1.size inb_S2x32_S1x1_1_14)).squeeze S_ squeezes_S1x1_S_).sem = semAt (arr 2) 1 14 := rfl
@[sl_canon] theorem sem_2_1_15 : ((cc0_scratch5.slice (Rect.unit (s := S2x32) ![1, 15] S1x1.size inb_S2x32_S1x1_1_15)).squeeze S_ squeezes_S1x1_S_).sem = semAt (arr 2) 1 15 := rfl
@[sl_canon] theorem sem_2_1_16 : ((cc0_scratch5.slice (Rect.unit (s := S2x32) ![1, 16] S1x1.size inb_S2x32_S1x1_1_16)).squeeze S_ squeezes_S1x1_S_).sem = semAt (arr 2) 1 16 := rfl
@[sl_canon] theorem sem_2_1_17 : ((cc0_scratch5.slice (Rect.unit (s := S2x32) ![1, 17] S1x1.size inb_S2x32_S1x1_1_17)).squeeze S_ squeezes_S1x1_S_).sem = semAt (arr 2) 1 17 := rfl
@[sl_canon] theorem sem_2_1_18 : ((cc0_scratch5.slice (Rect.unit (s := S2x32) ![1, 18] S1x1.size inb_S2x32_S1x1_1_18)).squeeze S_ squeezes_S1x1_S_).sem = semAt (arr 2) 1 18 := rfl
@[sl_canon] theorem sem_2_1_19 : ((cc0_scratch5.slice (Rect.unit (s := S2x32) ![1, 19] S1x1.size inb_S2x32_S1x1_1_19)).squeeze S_ squeezes_S1x1_S_).sem = semAt (arr 2) 1 19 := rfl
@[sl_canon] theorem sem_2_1_20 : ((cc0_scratch5.slice (Rect.unit (s := S2x32) ![1, 20] S1x1.size inb_S2x32_S1x1_1_20)).squeeze S_ squeezes_S1x1_S_).sem = semAt (arr 2) 1 20 := rfl
@[sl_canon] theorem sem_2_1_21 : ((cc0_scratch5.slice (Rect.unit (s := S2x32) ![1, 21] S1x1.size inb_S2x32_S1x1_1_21)).squeeze S_ squeezes_S1x1_S_).sem = semAt (arr 2) 1 21 := rfl
@[sl_canon] theorem sem_2_1_22 : ((cc0_scratch5.slice (Rect.unit (s := S2x32) ![1, 22] S1x1.size inb_S2x32_S1x1_1_22)).squeeze S_ squeezes_S1x1_S_).sem = semAt (arr 2) 1 22 := rfl
@[sl_canon] theorem sem_2_1_23 : ((cc0_scratch5.slice (Rect.unit (s := S2x32) ![1, 23] S1x1.size inb_S2x32_S1x1_1_23)).squeeze S_ squeezes_S1x1_S_).sem = semAt (arr 2) 1 23 := rfl
@[sl_canon] theorem sem_2_1_24 : ((cc0_scratch5.slice (Rect.unit (s := S2x32) ![1, 24] S1x1.size inb_S2x32_S1x1_1_24)).squeeze S_ squeezes_S1x1_S_).sem = semAt (arr 2) 1 24 := rfl
@[sl_canon] theorem sem_2_1_25 : ((cc0_scratch5.slice (Rect.unit (s := S2x32) ![1, 25] S1x1.size inb_S2x32_S1x1_1_25)).squeeze S_ squeezes_S1x1_S_).sem = semAt (arr 2) 1 25 := rfl
@[sl_canon] theorem sem_2_1_26 : ((cc0_scratch5.slice (Rect.unit (s := S2x32) ![1, 26] S1x1.size inb_S2x32_S1x1_1_26)).squeeze S_ squeezes_S1x1_S_).sem = semAt (arr 2) 1 26 := rfl
@[sl_canon] theorem sem_2_1_27 : ((cc0_scratch5.slice (Rect.unit (s := S2x32) ![1, 27] S1x1.size inb_S2x32_S1x1_1_27)).squeeze S_ squeezes_S1x1_S_).sem = semAt (arr 2) 1 27 := rfl
@[sl_canon] theorem sem_2_1_28 : ((cc0_scratch5.slice (Rect.unit (s := S2x32) ![1, 28] S1x1.size inb_S2x32_S1x1_1_28)).squeeze S_ squeezes_S1x1_S_).sem = semAt (arr 2) 1 28 := rfl
@[sl_canon] theorem sem_2_1_29 : ((cc0_scratch5.slice (Rect.unit (s := S2x32) ![1, 29] S1x1.size inb_S2x32_S1x1_1_29)).squeeze S_ squeezes_S1x1_S_).sem = semAt (arr 2) 1 29 := rfl
@[sl_canon] theorem sem_2_1_30 : ((cc0_scratch5.slice (Rect.unit (s := S2x32) ![1, 30] S1x1.size inb_S2x32_S1x1_1_30)).squeeze S_ squeezes_S1x1_S_).sem = semAt (arr 2) 1 30 := rfl
@[sl_canon] theorem sem_2_1_31 : ((cc0_scratch5.slice (Rect.unit (s := S2x32) ![1, 31] S1x1.size inb_S2x32_S1x1_1_31)).squeeze S_ squeezes_S1x1_S_).sem = semAt (arr 2) 1 31 := rfl
@[sl_canon] theorem sem_3_0_1 : ((cc0_scratch6.slice (Rect.unit (s := S2x32) ![0, 1] S1x1.size inb_S2x32_S1x1_0_1)).squeeze S_ squeezes_S1x1_S_).sem = semAt (arr 3) 0 1 := rfl
@[sl_canon] theorem sem_3_0_2 : ((cc0_scratch6.slice (Rect.unit (s := S2x32) ![0, 2] S1x1.size inb_S2x32_S1x1_0_2)).squeeze S_ squeezes_S1x1_S_).sem = semAt (arr 3) 0 2 := rfl
@[sl_canon] theorem sem_3_0_3 : ((cc0_scratch6.slice (Rect.unit (s := S2x32) ![0, 3] S1x1.size inb_S2x32_S1x1_0_3)).squeeze S_ squeezes_S1x1_S_).sem = semAt (arr 3) 0 3 := rfl
@[sl_canon] theorem sem_3_0_4 : ((cc0_scratch6.slice (Rect.unit (s := S2x32) ![0, 4] S1x1.size inb_S2x32_S1x1_0_4)).squeeze S_ squeezes_S1x1_S_).sem = semAt (arr 3) 0 4 := rfl
@[sl_canon] theorem sem_3_0_5 : ((cc0_scratch6.slice (Rect.unit (s := S2x32) ![0, 5] S1x1.size inb_S2x32_S1x1_0_5)).squeeze S_ squeezes_S1x1_S_).sem = semAt (arr 3) 0 5 := rfl
@[sl_canon] theorem sem_3_0_6 : ((cc0_scratch6.slice (Rect.unit (s := S2x32) ![0, 6] S1x1.size inb_S2x32_S1x1_0_6)).squeeze S_ squeezes_S1x1_S_).sem = semAt (arr 3) 0 6 := rfl
@[sl_canon] theorem sem_3_0_7 : ((cc0_scratch6.slice (Rect.unit (s := S2x32) ![0, 7] S1x1.size inb_S2x32_S1x1_0_7)).squeeze S_ squeezes_S1x1_S_).sem = semAt (arr 3) 0 7 := rfl
@[sl_canon] theorem sem_3_0_8 : ((cc0_scratch6.slice (Rect.unit (s := S2x32) ![0, 8] S1x1.size inb_S2x32_S1x1_0_8)).squeeze S_ squeezes_S1x1_S_).sem = semAt (arr 3) 0 8 := rfl
@[sl_canon] theorem sem_3_0_9 : ((cc0_scratch6.slice (Rect.unit (s := S2x32) ![0, 9] S1x1.size inb_S2x32_S1x1_0_9)).squeeze S_ squeezes_S1x1_S_).sem = semAt (arr 3) 0 9 := rfl
@[sl_canon] theorem sem_3_0_10 : ((cc0_scratch6.slice (Rect.unit (s := S2x32) ![0, 10] S1x1.size inb_S2x32_S1x1_0_10)).squeeze S_ squeezes_S1x1_S_).sem = semAt (arr 3) 0 10 := rfl
@[sl_canon] theorem sem_3_0_11 : ((cc0_scratch6.slice (Rect.unit (s := S2x32) ![0, 11] S1x1.size inb_S2x32_S1x1_0_11)).squeeze S_ squeezes_S1x1_S_).sem = semAt (arr 3) 0 11 := rfl
@[sl_canon] theorem sem_3_0_12 : ((cc0_scratch6.slice (Rect.unit (s := S2x32) ![0, 12] S1x1.size inb_S2x32_S1x1_0_12)).squeeze S_ squeezes_S1x1_S_).sem = semAt (arr 3) 0 12 := rfl
@[sl_canon] theorem sem_3_0_13 : ((cc0_scratch6.slice (Rect.unit (s := S2x32) ![0, 13] S1x1.size inb_S2x32_S1x1_0_13)).squeeze S_ squeezes_S1x1_S_).sem = semAt (arr 3) 0 13 := rfl
@[sl_canon] theorem sem_3_0_14 : ((cc0_scratch6.slice (Rect.unit (s := S2x32) ![0, 14] S1x1.size inb_S2x32_S1x1_0_14)).squeeze S_ squeezes_S1x1_S_).sem = semAt (arr 3) 0 14 := rfl
@[sl_canon] theorem sem_3_0_15 : ((cc0_scratch6.slice (Rect.unit (s := S2x32) ![0, 15] S1x1.size inb_S2x32_S1x1_0_15)).squeeze S_ squeezes_S1x1_S_).sem = semAt (arr 3) 0 15 := rfl
@[sl_canon] theorem sem_3_0_16 : ((cc0_scratch6.slice (Rect.unit (s := S2x32) ![0, 16] S1x1.size inb_S2x32_S1x1_0_16)).squeeze S_ squeezes_S1x1_S_).sem = semAt (arr 3) 0 16 := rfl
@[sl_canon] theorem sem_3_0_17 : ((cc0_scratch6.slice (Rect.unit (s := S2x32) ![0, 17] S1x1.size inb_S2x32_S1x1_0_17)).squeeze S_ squeezes_S1x1_S_).sem = semAt (arr 3) 0 17 := rfl
@[sl_canon] theorem sem_3_0_18 : ((cc0_scratch6.slice (Rect.unit (s := S2x32) ![0, 18] S1x1.size inb_S2x32_S1x1_0_18)).squeeze S_ squeezes_S1x1_S_).sem = semAt (arr 3) 0 18 := rfl
@[sl_canon] theorem sem_3_0_19 : ((cc0_scratch6.slice (Rect.unit (s := S2x32) ![0, 19] S1x1.size inb_S2x32_S1x1_0_19)).squeeze S_ squeezes_S1x1_S_).sem = semAt (arr 3) 0 19 := rfl
@[sl_canon] theorem sem_3_0_20 : ((cc0_scratch6.slice (Rect.unit (s := S2x32) ![0, 20] S1x1.size inb_S2x32_S1x1_0_20)).squeeze S_ squeezes_S1x1_S_).sem = semAt (arr 3) 0 20 := rfl
@[sl_canon] theorem sem_3_0_21 : ((cc0_scratch6.slice (Rect.unit (s := S2x32) ![0, 21] S1x1.size inb_S2x32_S1x1_0_21)).squeeze S_ squeezes_S1x1_S_).sem = semAt (arr 3) 0 21 := rfl
@[sl_canon] theorem sem_3_0_22 : ((cc0_scratch6.slice (Rect.unit (s := S2x32) ![0, 22] S1x1.size inb_S2x32_S1x1_0_22)).squeeze S_ squeezes_S1x1_S_).sem = semAt (arr 3) 0 22 := rfl
@[sl_canon] theorem sem_3_0_23 : ((cc0_scratch6.slice (Rect.unit (s := S2x32) ![0, 23] S1x1.size inb_S2x32_S1x1_0_23)).squeeze S_ squeezes_S1x1_S_).sem = semAt (arr 3) 0 23 := rfl
@[sl_canon] theorem sem_3_0_24 : ((cc0_scratch6.slice (Rect.unit (s := S2x32) ![0, 24] S1x1.size inb_S2x32_S1x1_0_24)).squeeze S_ squeezes_S1x1_S_).sem = semAt (arr 3) 0 24 := rfl
@[sl_canon] theorem sem_3_0_25 : ((cc0_scratch6.slice (Rect.unit (s := S2x32) ![0, 25] S1x1.size inb_S2x32_S1x1_0_25)).squeeze S_ squeezes_S1x1_S_).sem = semAt (arr 3) 0 25 := rfl
@[sl_canon] theorem sem_3_0_26 : ((cc0_scratch6.slice (Rect.unit (s := S2x32) ![0, 26] S1x1.size inb_S2x32_S1x1_0_26)).squeeze S_ squeezes_S1x1_S_).sem = semAt (arr 3) 0 26 := rfl
@[sl_canon] theorem sem_3_0_27 : ((cc0_scratch6.slice (Rect.unit (s := S2x32) ![0, 27] S1x1.size inb_S2x32_S1x1_0_27)).squeeze S_ squeezes_S1x1_S_).sem = semAt (arr 3) 0 27 := rfl
@[sl_canon] theorem sem_3_0_28 : ((cc0_scratch6.slice (Rect.unit (s := S2x32) ![0, 28] S1x1.size inb_S2x32_S1x1_0_28)).squeeze S_ squeezes_S1x1_S_).sem = semAt (arr 3) 0 28 := rfl
@[sl_canon] theorem sem_3_0_29 : ((cc0_scratch6.slice (Rect.unit (s := S2x32) ![0, 29] S1x1.size inb_S2x32_S1x1_0_29)).squeeze S_ squeezes_S1x1_S_).sem = semAt (arr 3) 0 29 := rfl
@[sl_canon] theorem sem_3_0_30 : ((cc0_scratch6.slice (Rect.unit (s := S2x32) ![0, 30] S1x1.size inb_S2x32_S1x1_0_30)).squeeze S_ squeezes_S1x1_S_).sem = semAt (arr 3) 0 30 := rfl
@[sl_canon] theorem sem_3_0_31 : ((cc0_scratch6.slice (Rect.unit (s := S2x32) ![0, 31] S1x1.size inb_S2x32_S1x1_0_31)).squeeze S_ squeezes_S1x1_S_).sem = semAt (arr 3) 0 31 := rfl
@[sl_canon] theorem sem_3_1_1 : ((cc0_scratch6.slice (Rect.unit (s := S2x32) ![1, 1] S1x1.size inb_S2x32_S1x1_1_1)).squeeze S_ squeezes_S1x1_S_).sem = semAt (arr 3) 1 1 := rfl
@[sl_canon] theorem sem_3_1_2 : ((cc0_scratch6.slice (Rect.unit (s := S2x32) ![1, 2] S1x1.size inb_S2x32_S1x1_1_2)).squeeze S_ squeezes_S1x1_S_).sem = semAt (arr 3) 1 2 := rfl
@[sl_canon] theorem sem_3_1_3 : ((cc0_scratch6.slice (Rect.unit (s := S2x32) ![1, 3] S1x1.size inb_S2x32_S1x1_1_3)).squeeze S_ squeezes_S1x1_S_).sem = semAt (arr 3) 1 3 := rfl
@[sl_canon] theorem sem_3_1_4 : ((cc0_scratch6.slice (Rect.unit (s := S2x32) ![1, 4] S1x1.size inb_S2x32_S1x1_1_4)).squeeze S_ squeezes_S1x1_S_).sem = semAt (arr 3) 1 4 := rfl
@[sl_canon] theorem sem_3_1_5 : ((cc0_scratch6.slice (Rect.unit (s := S2x32) ![1, 5] S1x1.size inb_S2x32_S1x1_1_5)).squeeze S_ squeezes_S1x1_S_).sem = semAt (arr 3) 1 5 := rfl
@[sl_canon] theorem sem_3_1_6 : ((cc0_scratch6.slice (Rect.unit (s := S2x32) ![1, 6] S1x1.size inb_S2x32_S1x1_1_6)).squeeze S_ squeezes_S1x1_S_).sem = semAt (arr 3) 1 6 := rfl
@[sl_canon] theorem sem_3_1_7 : ((cc0_scratch6.slice (Rect.unit (s := S2x32) ![1, 7] S1x1.size inb_S2x32_S1x1_1_7)).squeeze S_ squeezes_S1x1_S_).sem = semAt (arr 3) 1 7 := rfl
@[sl_canon] theorem sem_3_1_8 : ((cc0_scratch6.slice (Rect.unit (s := S2x32) ![1, 8] S1x1.size inb_S2x32_S1x1_1_8)).squeeze S_ squeezes_S1x1_S_).sem = semAt (arr 3) 1 8 := rfl
@[sl_canon] theorem sem_3_1_9 : ((cc0_scratch6.slice (Rect.unit (s := S2x32) ![1, 9] S1x1.size inb_S2x32_S1x1_1_9)).squeeze S_ squeezes_S1x1_S_).sem = semAt (arr 3) 1 9 := rfl
@[sl_canon] theorem sem_3_1_10 : ((cc0_scratch6.slice (Rect.unit (s := S2x32) ![1, 10] S1x1.size inb_S2x32_S1x1_1_10)).squeeze S_ squeezes_S1x1_S_).sem = semAt (arr 3) 1 10 := rfl
@[sl_canon] theorem sem_3_1_11 : ((cc0_scratch6.slice (Rect.unit (s := S2x32) ![1, 11] S1x1.size inb_S2x32_S1x1_1_11)).squeeze S_ squeezes_S1x1_S_).sem = semAt (arr 3) 1 11 := rfl
@[sl_canon] theorem sem_3_1_12 : ((cc0_scratch6.slice (Rect.unit (s := S2x32) ![1, 12] S1x1.size inb_S2x32_S1x1_1_12)).squeeze S_ squeezes_S1x1_S_).sem = semAt (arr 3) 1 12 := rfl
@[sl_canon] theorem sem_3_1_13 : ((cc0_scratch6.slice (Rect.unit (s := S2x32) ![1, 13] S1x1.size inb_S2x32_S1x1_1_13)).squeeze S_ squeezes_S1x1_S_).sem = semAt (arr 3) 1 13 := rfl
@[sl_canon] theorem sem_3_1_14 : ((cc0_scratch6.slice (Rect.unit (s := S2x32) ![1, 14] S1x1.size inb_S2x32_S1x1_1_14)).squeeze S_ squeezes_S1x1_S_).sem = semAt (arr 3) 1 14 := rfl
@[sl_canon] theorem sem_3_1_15 : ((cc0_scratch6.slice (Rect.unit (s := S2x32) ![1, 15] S1x1.size inb_S2x32_S1x1_1_15)).squeeze S_ squeezes_S1x1_S_).sem = semAt (arr 3) 1 15 := rfl
@[sl_canon] theorem sem_3_1_16 : ((cc0_scratch6.slice (Rect.unit (s := S2x32) ![1, 16] S1x1.size inb_S2x32_S1x1_1_16)).squeeze S_ squeezes_S1x1_S_).sem = semAt (arr 3) 1 16 := rfl
@[sl_canon] theorem sem_3_1_17 : ((cc0_scratch6.slice (Rect.unit (s := S2x32) ![1, 17] S1x1.size inb_S2x32_S1x1_1_17)).squeeze S_ squeezes_S1x1_S_).sem = semAt (arr 3) 1 17 := rfl
@[sl_canon] theorem sem_3_1_18 : ((cc0_scratch6.slice (Rect.unit (s := S2x32) ![1, 18] S1x1.size inb_S2x32_S1x1_1_18)).squeeze S_ squeezes_S1x1_S_).sem = semAt (arr 3) 1 18 := rfl
@[sl_canon] theorem sem_3_1_19 : ((cc0_scratch6.slice (Rect.unit (s := S2x32) ![1, 19] S1x1.size inb_S2x32_S1x1_1_19)).squeeze S_ squeezes_S1x1_S_).sem = semAt (arr 3) 1 19 := rfl
@[sl_canon] theorem sem_3_1_20 : ((cc0_scratch6.slice (Rect.unit (s := S2x32) ![1, 20] S1x1.size inb_S2x32_S1x1_1_20)).squeeze S_ squeezes_S1x1_S_).sem = semAt (arr 3) 1 20 := rfl
@[sl_canon] theorem sem_3_1_21 : ((cc0_scratch6.slice (Rect.unit (s := S2x32) ![1, 21] S1x1.size inb_S2x32_S1x1_1_21)).squeeze S_ squeezes_S1x1_S_).sem = semAt (arr 3) 1 21 := rfl
@[sl_canon] theorem sem_3_1_22 : ((cc0_scratch6.slice (Rect.unit (s := S2x32) ![1, 22] S1x1.size inb_S2x32_S1x1_1_22)).squeeze S_ squeezes_S1x1_S_).sem = semAt (arr 3) 1 22 := rfl
@[sl_canon] theorem sem_3_1_23 : ((cc0_scratch6.slice (Rect.unit (s := S2x32) ![1, 23] S1x1.size inb_S2x32_S1x1_1_23)).squeeze S_ squeezes_S1x1_S_).sem = semAt (arr 3) 1 23 := rfl
@[sl_canon] theorem sem_3_1_24 : ((cc0_scratch6.slice (Rect.unit (s := S2x32) ![1, 24] S1x1.size inb_S2x32_S1x1_1_24)).squeeze S_ squeezes_S1x1_S_).sem = semAt (arr 3) 1 24 := rfl
@[sl_canon] theorem sem_3_1_25 : ((cc0_scratch6.slice (Rect.unit (s := S2x32) ![1, 25] S1x1.size inb_S2x32_S1x1_1_25)).squeeze S_ squeezes_S1x1_S_).sem = semAt (arr 3) 1 25 := rfl
@[sl_canon] theorem sem_3_1_26 : ((cc0_scratch6.slice (Rect.unit (s := S2x32) ![1, 26] S1x1.size inb_S2x32_S1x1_1_26)).squeeze S_ squeezes_S1x1_S_).sem = semAt (arr 3) 1 26 := rfl
@[sl_canon] theorem sem_3_1_27 : ((cc0_scratch6.slice (Rect.unit (s := S2x32) ![1, 27] S1x1.size inb_S2x32_S1x1_1_27)).squeeze S_ squeezes_S1x1_S_).sem = semAt (arr 3) 1 27 := rfl
@[sl_canon] theorem sem_3_1_28 : ((cc0_scratch6.slice (Rect.unit (s := S2x32) ![1, 28] S1x1.size inb_S2x32_S1x1_1_28)).squeeze S_ squeezes_S1x1_S_).sem = semAt (arr 3) 1 28 := rfl
@[sl_canon] theorem sem_3_1_29 : ((cc0_scratch6.slice (Rect.unit (s := S2x32) ![1, 29] S1x1.size inb_S2x32_S1x1_1_29)).squeeze S_ squeezes_S1x1_S_).sem = semAt (arr 3) 1 29 := rfl
@[sl_canon] theorem sem_3_1_30 : ((cc0_scratch6.slice (Rect.unit (s := S2x32) ![1, 30] S1x1.size inb_S2x32_S1x1_1_30)).squeeze S_ squeezes_S1x1_S_).sem = semAt (arr 3) 1 30 := rfl
@[sl_canon] theorem sem_3_1_31 : ((cc0_scratch6.slice (Rect.unit (s := S2x32) ![1, 31] S1x1.size inb_S2x32_S1x1_1_31)).squeeze S_ squeezes_S1x1_S_).sem = semAt (arr 3) 1 31 := rfl

/-! ## The peers -/

@[sl_canon] theorem dev1_eq (c : Dev nD) : (⟨k0_dev1 c, k0_dev1_lt c⟩ : Dev nD) = fwd c 1 := Fin.ext (k0_dev1_eq c)
@[sl_canon] theorem dev2_eq (c : Dev nD) : (⟨k0_dev2 c, k0_dev2_lt c⟩ : Dev nD) = fwd c 2 := Fin.ext (k0_dev2_eq c)
@[sl_canon] theorem dev3_eq (c : Dev nD) : (⟨k0_dev3 c, k0_dev3_lt c⟩ : Dev nD) = fwd c 3 := Fin.ext (k0_dev3_eq c)
@[sl_canon] theorem dev4_eq (c : Dev nD) : (⟨k0_dev4 c, k0_dev4_lt c⟩ : Dev nD) = fwd c 4 := Fin.ext (k0_dev4_eq c)
@[sl_canon] theorem dev5_eq (c : Dev nD) : (⟨k0_dev5 c, k0_dev5_lt c⟩ : Dev nD) = fwd c 5 := Fin.ext (k0_dev5_eq c)
@[sl_canon] theorem dev6_eq (c : Dev nD) : (⟨k0_dev6 c, k0_dev6_lt c⟩ : Dev nD) = fwd c 6 := Fin.ext (k0_dev6_eq c)
@[sl_canon] theorem dev7_eq (c : Dev nD) : (⟨k0_dev7 c, k0_dev7_lt c⟩ : Dev nD) = fwd c 7 := Fin.ext (k0_dev7_eq c)
@[sl_canon] theorem dev8_eq (c : Dev nD) : (⟨k0_dev8 c, k0_dev8_lt c⟩ : Dev nD) = fwd c 8 := Fin.ext (k0_dev8_eq c)
@[sl_canon] theorem dev9_eq (c : Dev nD) : (⟨k0_dev9 c, k0_dev9_lt c⟩ : Dev nD) = fwd c 9 := Fin.ext (k0_dev9_eq c)
@[sl_canon] theorem dev10_eq (c : Dev nD) : (⟨k0_dev10 c, k0_dev10_lt c⟩ : Dev nD) = fwd c 10 := Fin.ext (k0_dev10_eq c)
@[sl_canon] theorem dev11_eq (c : Dev nD) : (⟨k0_dev11 c, k0_dev11_lt c⟩ : Dev nD) = fwd c 11 := Fin.ext (k0_dev11_eq c)
@[sl_canon] theorem dev12_eq (c : Dev nD) : (⟨k0_dev12 c, k0_dev12_lt c⟩ : Dev nD) = fwd c 12 := Fin.ext (k0_dev12_eq c)
@[sl_canon] theorem dev13_eq (c : Dev nD) : (⟨k0_dev13 c, k0_dev13_lt c⟩ : Dev nD) = fwd c 13 := Fin.ext (k0_dev13_eq c)
@[sl_canon] theorem dev14_eq (c : Dev nD) : (⟨k0_dev14 c, k0_dev14_lt c⟩ : Dev nD) = fwd c 14 := Fin.ext (k0_dev14_eq c)
@[sl_canon] theorem dev15_eq (c : Dev nD) : (⟨k0_dev15 c, k0_dev15_lt c⟩ : Dev nD) = fwd c 15 := Fin.ext (k0_dev15_eq c)
@[sl_canon] theorem dev16_eq (c : Dev nD) : (⟨k0_dev16 c, k0_dev16_lt c⟩ : Dev nD) = fwd c 16 := Fin.ext (k0_dev16_eq c)
@[sl_canon] theorem dev17_eq (c : Dev nD) : (⟨k0_dev17 c, k0_dev17_lt c⟩ : Dev nD) = fwd c 17 := Fin.ext (k0_dev17_eq c)
@[sl_canon] theorem dev18_eq (c : Dev nD) : (⟨k0_dev18 c, k0_dev18_lt c⟩ : Dev nD) = fwd c 18 := Fin.ext (k0_dev18_eq c)
@[sl_canon] theorem dev19_eq (c : Dev nD) : (⟨k0_dev19 c, k0_dev19_lt c⟩ : Dev nD) = fwd c 19 := Fin.ext (k0_dev19_eq c)
@[sl_canon] theorem dev20_eq (c : Dev nD) : (⟨k0_dev20 c, k0_dev20_lt c⟩ : Dev nD) = fwd c 20 := Fin.ext (k0_dev20_eq c)
@[sl_canon] theorem dev21_eq (c : Dev nD) : (⟨k0_dev21 c, k0_dev21_lt c⟩ : Dev nD) = fwd c 21 := Fin.ext (k0_dev21_eq c)
@[sl_canon] theorem dev22_eq (c : Dev nD) : (⟨k0_dev22 c, k0_dev22_lt c⟩ : Dev nD) = fwd c 22 := Fin.ext (k0_dev22_eq c)
@[sl_canon] theorem dev23_eq (c : Dev nD) : (⟨k0_dev23 c, k0_dev23_lt c⟩ : Dev nD) = fwd c 23 := Fin.ext (k0_dev23_eq c)
@[sl_canon] theorem dev24_eq (c : Dev nD) : (⟨k0_dev24 c, k0_dev24_lt c⟩ : Dev nD) = fwd c 24 := Fin.ext (k0_dev24_eq c)
@[sl_canon] theorem dev25_eq (c : Dev nD) : (⟨k0_dev25 c, k0_dev25_lt c⟩ : Dev nD) = fwd c 25 := Fin.ext (k0_dev25_eq c)
@[sl_canon] theorem dev26_eq (c : Dev nD) : (⟨k0_dev26 c, k0_dev26_lt c⟩ : Dev nD) = fwd c 26 := Fin.ext (k0_dev26_eq c)
@[sl_canon] theorem dev27_eq (c : Dev nD) : (⟨k0_dev27 c, k0_dev27_lt c⟩ : Dev nD) = fwd c 27 := Fin.ext (k0_dev27_eq c)
@[sl_canon] theorem dev28_eq (c : Dev nD) : (⟨k0_dev28 c, k0_dev28_lt c⟩ : Dev nD) = fwd c 28 := Fin.ext (k0_dev28_eq c)
@[sl_canon] theorem dev29_eq (c : Dev nD) : (⟨k0_dev29 c, k0_dev29_lt c⟩ : Dev nD) = fwd c 29 := Fin.ext (k0_dev29_eq c)
@[sl_canon] theorem dev30_eq (c : Dev nD) : (⟨k0_dev30 c, k0_dev30_lt c⟩ : Dev nD) = fwd c 30 := Fin.ext (k0_dev30_eq c)
@[sl_canon] theorem dev31_eq (c : Dev nD) : (⟨k0_dev31 c, k0_dev31_lt c⟩ : Dev nD) = fwd c 31 := Fin.ext (k0_dev31_eq c)
@[sl_canon] theorem dev32_eq (c : Dev nD) : (⟨k0_dev32 c, k0_dev32_lt c⟩ : Dev nD) = fwd c 1 := Fin.ext (k0_dev32_eq c)
@[sl_canon] theorem dev33_eq (c : Dev nD) : (⟨k0_dev33 c, k0_dev33_lt c⟩ : Dev nD) = fwd c 2 := Fin.ext (k0_dev33_eq c)
@[sl_canon] theorem dev34_eq (c : Dev nD) : (⟨k0_dev34 c, k0_dev34_lt c⟩ : Dev nD) = fwd c 3 := Fin.ext (k0_dev34_eq c)
@[sl_canon] theorem dev35_eq (c : Dev nD) : (⟨k0_dev35 c, k0_dev35_lt c⟩ : Dev nD) = fwd c 4 := Fin.ext (k0_dev35_eq c)
@[sl_canon] theorem dev36_eq (c : Dev nD) : (⟨k0_dev36 c, k0_dev36_lt c⟩ : Dev nD) = fwd c 5 := Fin.ext (k0_dev36_eq c)
@[sl_canon] theorem dev37_eq (c : Dev nD) : (⟨k0_dev37 c, k0_dev37_lt c⟩ : Dev nD) = fwd c 6 := Fin.ext (k0_dev37_eq c)
@[sl_canon] theorem dev38_eq (c : Dev nD) : (⟨k0_dev38 c, k0_dev38_lt c⟩ : Dev nD) = fwd c 7 := Fin.ext (k0_dev38_eq c)
@[sl_canon] theorem dev39_eq (c : Dev nD) : (⟨k0_dev39 c, k0_dev39_lt c⟩ : Dev nD) = fwd c 8 := Fin.ext (k0_dev39_eq c)
@[sl_canon] theorem dev40_eq (c : Dev nD) : (⟨k0_dev40 c, k0_dev40_lt c⟩ : Dev nD) = fwd c 9 := Fin.ext (k0_dev40_eq c)
@[sl_canon] theorem dev41_eq (c : Dev nD) : (⟨k0_dev41 c, k0_dev41_lt c⟩ : Dev nD) = fwd c 10 := Fin.ext (k0_dev41_eq c)
@[sl_canon] theorem dev42_eq (c : Dev nD) : (⟨k0_dev42 c, k0_dev42_lt c⟩ : Dev nD) = fwd c 11 := Fin.ext (k0_dev42_eq c)
@[sl_canon] theorem dev43_eq (c : Dev nD) : (⟨k0_dev43 c, k0_dev43_lt c⟩ : Dev nD) = fwd c 12 := Fin.ext (k0_dev43_eq c)
@[sl_canon] theorem dev44_eq (c : Dev nD) : (⟨k0_dev44 c, k0_dev44_lt c⟩ : Dev nD) = fwd c 13 := Fin.ext (k0_dev44_eq c)
@[sl_canon] theorem dev45_eq (c : Dev nD) : (⟨k0_dev45 c, k0_dev45_lt c⟩ : Dev nD) = fwd c 14 := Fin.ext (k0_dev45_eq c)
@[sl_canon] theorem dev46_eq (c : Dev nD) : (⟨k0_dev46 c, k0_dev46_lt c⟩ : Dev nD) = fwd c 15 := Fin.ext (k0_dev46_eq c)
@[sl_canon] theorem dev47_eq (c : Dev nD) : (⟨k0_dev47 c, k0_dev47_lt c⟩ : Dev nD) = fwd c 16 := Fin.ext (k0_dev47_eq c)
@[sl_canon] theorem dev48_eq (c : Dev nD) : (⟨k0_dev48 c, k0_dev48_lt c⟩ : Dev nD) = fwd c 17 := Fin.ext (k0_dev48_eq c)
@[sl_canon] theorem dev49_eq (c : Dev nD) : (⟨k0_dev49 c, k0_dev49_lt c⟩ : Dev nD) = fwd c 18 := Fin.ext (k0_dev49_eq c)
@[sl_canon] theorem dev50_eq (c : Dev nD) : (⟨k0_dev50 c, k0_dev50_lt c⟩ : Dev nD) = fwd c 19 := Fin.ext (k0_dev50_eq c)
@[sl_canon] theorem dev51_eq (c : Dev nD) : (⟨k0_dev51 c, k0_dev51_lt c⟩ : Dev nD) = fwd c 20 := Fin.ext (k0_dev51_eq c)
@[sl_canon] theorem dev52_eq (c : Dev nD) : (⟨k0_dev52 c, k0_dev52_lt c⟩ : Dev nD) = fwd c 21 := Fin.ext (k0_dev52_eq c)
@[sl_canon] theorem dev53_eq (c : Dev nD) : (⟨k0_dev53 c, k0_dev53_lt c⟩ : Dev nD) = fwd c 22 := Fin.ext (k0_dev53_eq c)
@[sl_canon] theorem dev54_eq (c : Dev nD) : (⟨k0_dev54 c, k0_dev54_lt c⟩ : Dev nD) = fwd c 23 := Fin.ext (k0_dev54_eq c)
@[sl_canon] theorem dev55_eq (c : Dev nD) : (⟨k0_dev55 c, k0_dev55_lt c⟩ : Dev nD) = fwd c 24 := Fin.ext (k0_dev55_eq c)
@[sl_canon] theorem dev56_eq (c : Dev nD) : (⟨k0_dev56 c, k0_dev56_lt c⟩ : Dev nD) = fwd c 25 := Fin.ext (k0_dev56_eq c)
@[sl_canon] theorem dev57_eq (c : Dev nD) : (⟨k0_dev57 c, k0_dev57_lt c⟩ : Dev nD) = fwd c 26 := Fin.ext (k0_dev57_eq c)
@[sl_canon] theorem dev58_eq (c : Dev nD) : (⟨k0_dev58 c, k0_dev58_lt c⟩ : Dev nD) = fwd c 27 := Fin.ext (k0_dev58_eq c)
@[sl_canon] theorem dev59_eq (c : Dev nD) : (⟨k0_dev59 c, k0_dev59_lt c⟩ : Dev nD) = fwd c 28 := Fin.ext (k0_dev59_eq c)
@[sl_canon] theorem dev60_eq (c : Dev nD) : (⟨k0_dev60 c, k0_dev60_lt c⟩ : Dev nD) = fwd c 29 := Fin.ext (k0_dev60_eq c)
@[sl_canon] theorem dev61_eq (c : Dev nD) : (⟨k0_dev61 c, k0_dev61_lt c⟩ : Dev nD) = fwd c 30 := Fin.ext (k0_dev61_eq c)
@[sl_canon] theorem dev62_eq (c : Dev nD) : (⟨k0_dev62 c, k0_dev62_lt c⟩ : Dev nD) = fwd c 31 := Fin.ext (k0_dev62_eq c)
@[sl_canon] theorem dev63_eq (c : Dev nD) : (⟨k0_dev63 c, k0_dev63_lt c⟩ : Dev nD) = fwd c 1 := Fin.ext (k0_dev63_eq c)
@[sl_canon] theorem dev64_eq (c : Dev nD) : (⟨k0_dev64 c, k0_dev64_lt c⟩ : Dev nD) = fwd c 2 := Fin.ext (k0_dev64_eq c)
@[sl_canon] theorem dev65_eq (c : Dev nD) : (⟨k0_dev65 c, k0_dev65_lt c⟩ : Dev nD) = fwd c 3 := Fin.ext (k0_dev65_eq c)
@[sl_canon] theorem dev66_eq (c : Dev nD) : (⟨k0_dev66 c, k0_dev66_lt c⟩ : Dev nD) = fwd c 4 := Fin.ext (k0_dev66_eq c)
@[sl_canon] theorem dev67_eq (c : Dev nD) : (⟨k0_dev67 c, k0_dev67_lt c⟩ : Dev nD) = fwd c 5 := Fin.ext (k0_dev67_eq c)
@[sl_canon] theorem dev68_eq (c : Dev nD) : (⟨k0_dev68 c, k0_dev68_lt c⟩ : Dev nD) = fwd c 6 := Fin.ext (k0_dev68_eq c)
@[sl_canon] theorem dev69_eq (c : Dev nD) : (⟨k0_dev69 c, k0_dev69_lt c⟩ : Dev nD) = fwd c 7 := Fin.ext (k0_dev69_eq c)
@[sl_canon] theorem dev70_eq (c : Dev nD) : (⟨k0_dev70 c, k0_dev70_lt c⟩ : Dev nD) = fwd c 8 := Fin.ext (k0_dev70_eq c)
@[sl_canon] theorem dev71_eq (c : Dev nD) : (⟨k0_dev71 c, k0_dev71_lt c⟩ : Dev nD) = fwd c 9 := Fin.ext (k0_dev71_eq c)
@[sl_canon] theorem dev72_eq (c : Dev nD) : (⟨k0_dev72 c, k0_dev72_lt c⟩ : Dev nD) = fwd c 10 := Fin.ext (k0_dev72_eq c)
@[sl_canon] theorem dev73_eq (c : Dev nD) : (⟨k0_dev73 c, k0_dev73_lt c⟩ : Dev nD) = fwd c 11 := Fin.ext (k0_dev73_eq c)
@[sl_canon] theorem dev74_eq (c : Dev nD) : (⟨k0_dev74 c, k0_dev74_lt c⟩ : Dev nD) = fwd c 12 := Fin.ext (k0_dev74_eq c)
@[sl_canon] theorem dev75_eq (c : Dev nD) : (⟨k0_dev75 c, k0_dev75_lt c⟩ : Dev nD) = fwd c 13 := Fin.ext (k0_dev75_eq c)
@[sl_canon] theorem dev76_eq (c : Dev nD) : (⟨k0_dev76 c, k0_dev76_lt c⟩ : Dev nD) = fwd c 14 := Fin.ext (k0_dev76_eq c)
@[sl_canon] theorem dev77_eq (c : Dev nD) : (⟨k0_dev77 c, k0_dev77_lt c⟩ : Dev nD) = fwd c 15 := Fin.ext (k0_dev77_eq c)
@[sl_canon] theorem dev78_eq (c : Dev nD) : (⟨k0_dev78 c, k0_dev78_lt c⟩ : Dev nD) = fwd c 16 := Fin.ext (k0_dev78_eq c)
@[sl_canon] theorem dev79_eq (c : Dev nD) : (⟨k0_dev79 c, k0_dev79_lt c⟩ : Dev nD) = fwd c 17 := Fin.ext (k0_dev79_eq c)
@[sl_canon] theorem dev80_eq (c : Dev nD) : (⟨k0_dev80 c, k0_dev80_lt c⟩ : Dev nD) = fwd c 18 := Fin.ext (k0_dev80_eq c)
@[sl_canon] theorem dev81_eq (c : Dev nD) : (⟨k0_dev81 c, k0_dev81_lt c⟩ : Dev nD) = fwd c 19 := Fin.ext (k0_dev81_eq c)
@[sl_canon] theorem dev82_eq (c : Dev nD) : (⟨k0_dev82 c, k0_dev82_lt c⟩ : Dev nD) = fwd c 20 := Fin.ext (k0_dev82_eq c)
@[sl_canon] theorem dev83_eq (c : Dev nD) : (⟨k0_dev83 c, k0_dev83_lt c⟩ : Dev nD) = fwd c 21 := Fin.ext (k0_dev83_eq c)
@[sl_canon] theorem dev84_eq (c : Dev nD) : (⟨k0_dev84 c, k0_dev84_lt c⟩ : Dev nD) = fwd c 22 := Fin.ext (k0_dev84_eq c)
@[sl_canon] theorem dev85_eq (c : Dev nD) : (⟨k0_dev85 c, k0_dev85_lt c⟩ : Dev nD) = fwd c 23 := Fin.ext (k0_dev85_eq c)
@[sl_canon] theorem dev86_eq (c : Dev nD) : (⟨k0_dev86 c, k0_dev86_lt c⟩ : Dev nD) = fwd c 24 := Fin.ext (k0_dev86_eq c)
@[sl_canon] theorem dev87_eq (c : Dev nD) : (⟨k0_dev87 c, k0_dev87_lt c⟩ : Dev nD) = fwd c 25 := Fin.ext (k0_dev87_eq c)
@[sl_canon] theorem dev88_eq (c : Dev nD) : (⟨k0_dev88 c, k0_dev88_lt c⟩ : Dev nD) = fwd c 26 := Fin.ext (k0_dev88_eq c)
@[sl_canon] theorem dev89_eq (c : Dev nD) : (⟨k0_dev89 c, k0_dev89_lt c⟩ : Dev nD) = fwd c 27 := Fin.ext (k0_dev89_eq c)
@[sl_canon] theorem dev90_eq (c : Dev nD) : (⟨k0_dev90 c, k0_dev90_lt c⟩ : Dev nD) = fwd c 28 := Fin.ext (k0_dev90_eq c)
@[sl_canon] theorem dev91_eq (c : Dev nD) : (⟨k0_dev91 c, k0_dev91_lt c⟩ : Dev nD) = fwd c 29 := Fin.ext (k0_dev91_eq c)
@[sl_canon] theorem dev92_eq (c : Dev nD) : (⟨k0_dev92 c, k0_dev92_lt c⟩ : Dev nD) = fwd c 30 := Fin.ext (k0_dev92_eq c)
@[sl_canon] theorem dev93_eq (c : Dev nD) : (⟨k0_dev93 c, k0_dev93_lt c⟩ : Dev nD) = fwd c 31 := Fin.ext (k0_dev93_eq c)
@[sl_canon] theorem dev94_eq (c : Dev nD) : (⟨k0_dev94 c, k0_dev94_lt c⟩ : Dev nD) = fwd c 1 := Fin.ext (k0_dev94_eq c)
@[sl_canon] theorem dev95_eq (c : Dev nD) : (⟨k0_dev95 c, k0_dev95_lt c⟩ : Dev nD) = fwd c 2 := Fin.ext (k0_dev95_eq c)
@[sl_canon] theorem dev96_eq (c : Dev nD) : (⟨k0_dev96 c, k0_dev96_lt c⟩ : Dev nD) = fwd c 3 := Fin.ext (k0_dev96_eq c)
@[sl_canon] theorem dev97_eq (c : Dev nD) : (⟨k0_dev97 c, k0_dev97_lt c⟩ : Dev nD) = fwd c 4 := Fin.ext (k0_dev97_eq c)
@[sl_canon] theorem dev98_eq (c : Dev nD) : (⟨k0_dev98 c, k0_dev98_lt c⟩ : Dev nD) = fwd c 5 := Fin.ext (k0_dev98_eq c)
@[sl_canon] theorem dev99_eq (c : Dev nD) : (⟨k0_dev99 c, k0_dev99_lt c⟩ : Dev nD) = fwd c 6 := Fin.ext (k0_dev99_eq c)
@[sl_canon] theorem dev100_eq (c : Dev nD) : (⟨k0_dev100 c, k0_dev100_lt c⟩ : Dev nD) = fwd c 7 := Fin.ext (k0_dev100_eq c)
@[sl_canon] theorem dev101_eq (c : Dev nD) : (⟨k0_dev101 c, k0_dev101_lt c⟩ : Dev nD) = fwd c 8 := Fin.ext (k0_dev101_eq c)
@[sl_canon] theorem dev102_eq (c : Dev nD) : (⟨k0_dev102 c, k0_dev102_lt c⟩ : Dev nD) = fwd c 9 := Fin.ext (k0_dev102_eq c)
@[sl_canon] theorem dev103_eq (c : Dev nD) : (⟨k0_dev103 c, k0_dev103_lt c⟩ : Dev nD) = fwd c 10 := Fin.ext (k0_dev103_eq c)
@[sl_canon] theorem dev104_eq (c : Dev nD) : (⟨k0_dev104 c, k0_dev104_lt c⟩ : Dev nD) = fwd c 11 := Fin.ext (k0_dev104_eq c)
@[sl_canon] theorem dev105_eq (c : Dev nD) : (⟨k0_dev105 c, k0_dev105_lt c⟩ : Dev nD) = fwd c 12 := Fin.ext (k0_dev105_eq c)
@[sl_canon] theorem dev106_eq (c : Dev nD) : (⟨k0_dev106 c, k0_dev106_lt c⟩ : Dev nD) = fwd c 13 := Fin.ext (k0_dev106_eq c)
@[sl_canon] theorem dev107_eq (c : Dev nD) : (⟨k0_dev107 c, k0_dev107_lt c⟩ : Dev nD) = fwd c 14 := Fin.ext (k0_dev107_eq c)
@[sl_canon] theorem dev108_eq (c : Dev nD) : (⟨k0_dev108 c, k0_dev108_lt c⟩ : Dev nD) = fwd c 15 := Fin.ext (k0_dev108_eq c)
@[sl_canon] theorem dev109_eq (c : Dev nD) : (⟨k0_dev109 c, k0_dev109_lt c⟩ : Dev nD) = fwd c 16 := Fin.ext (k0_dev109_eq c)
@[sl_canon] theorem dev110_eq (c : Dev nD) : (⟨k0_dev110 c, k0_dev110_lt c⟩ : Dev nD) = fwd c 17 := Fin.ext (k0_dev110_eq c)
@[sl_canon] theorem dev111_eq (c : Dev nD) : (⟨k0_dev111 c, k0_dev111_lt c⟩ : Dev nD) = fwd c 18 := Fin.ext (k0_dev111_eq c)
@[sl_canon] theorem dev112_eq (c : Dev nD) : (⟨k0_dev112 c, k0_dev112_lt c⟩ : Dev nD) = fwd c 19 := Fin.ext (k0_dev112_eq c)
@[sl_canon] theorem dev113_eq (c : Dev nD) : (⟨k0_dev113 c, k0_dev113_lt c⟩ : Dev nD) = fwd c 20 := Fin.ext (k0_dev113_eq c)
@[sl_canon] theorem dev114_eq (c : Dev nD) : (⟨k0_dev114 c, k0_dev114_lt c⟩ : Dev nD) = fwd c 21 := Fin.ext (k0_dev114_eq c)
@[sl_canon] theorem dev115_eq (c : Dev nD) : (⟨k0_dev115 c, k0_dev115_lt c⟩ : Dev nD) = fwd c 22 := Fin.ext (k0_dev115_eq c)
@[sl_canon] theorem dev116_eq (c : Dev nD) : (⟨k0_dev116 c, k0_dev116_lt c⟩ : Dev nD) = fwd c 23 := Fin.ext (k0_dev116_eq c)
@[sl_canon] theorem dev117_eq (c : Dev nD) : (⟨k0_dev117 c, k0_dev117_lt c⟩ : Dev nD) = fwd c 24 := Fin.ext (k0_dev117_eq c)
@[sl_canon] theorem dev118_eq (c : Dev nD) : (⟨k0_dev118 c, k0_dev118_lt c⟩ : Dev nD) = fwd c 25 := Fin.ext (k0_dev118_eq c)
@[sl_canon] theorem dev119_eq (c : Dev nD) : (⟨k0_dev119 c, k0_dev119_lt c⟩ : Dev nD) = fwd c 26 := Fin.ext (k0_dev119_eq c)
@[sl_canon] theorem dev120_eq (c : Dev nD) : (⟨k0_dev120 c, k0_dev120_lt c⟩ : Dev nD) = fwd c 27 := Fin.ext (k0_dev120_eq c)
@[sl_canon] theorem dev121_eq (c : Dev nD) : (⟨k0_dev121 c, k0_dev121_lt c⟩ : Dev nD) = fwd c 28 := Fin.ext (k0_dev121_eq c)
@[sl_canon] theorem dev122_eq (c : Dev nD) : (⟨k0_dev122 c, k0_dev122_lt c⟩ : Dev nD) = fwd c 29 := Fin.ext (k0_dev122_eq c)
@[sl_canon] theorem dev123_eq (c : Dev nD) : (⟨k0_dev123 c, k0_dev123_lt c⟩ : Dev nD) = fwd c 30 := Fin.ext (k0_dev123_eq c)
@[sl_canon] theorem dev124_eq (c : Dev nD) : (⟨k0_dev124 c, k0_dev124_lt c⟩ : Dev nD) = fwd c 31 := Fin.ext (k0_dev124_eq c)
@[sl_canon] theorem dev125_eq (c : Dev nD) : (⟨k0_dev125 c, k0_dev125_lt c⟩ : Dev nD) = fwd c 1 := Fin.ext (k0_dev125_eq c)
@[sl_canon] theorem dev126_eq (c : Dev nD) : (⟨k0_dev126 c, k0_dev126_lt c⟩ : Dev nD) = fwd c 2 := Fin.ext (k0_dev126_eq c)
@[sl_canon] theorem dev127_eq (c : Dev nD) : (⟨k0_dev127 c, k0_dev127_lt c⟩ : Dev nD) = fwd c 3 := Fin.ext (k0_dev127_eq c)
@[sl_canon] theorem dev128_eq (c : Dev nD) : (⟨k0_dev128 c, k0_dev128_lt c⟩ : Dev nD) = fwd c 4 := Fin.ext (k0_dev128_eq c)
@[sl_canon] theorem dev129_eq (c : Dev nD) : (⟨k0_dev129 c, k0_dev129_lt c⟩ : Dev nD) = fwd c 5 := Fin.ext (k0_dev129_eq c)
@[sl_canon] theorem dev130_eq (c : Dev nD) : (⟨k0_dev130 c, k0_dev130_lt c⟩ : Dev nD) = fwd c 6 := Fin.ext (k0_dev130_eq c)
@[sl_canon] theorem dev131_eq (c : Dev nD) : (⟨k0_dev131 c, k0_dev131_lt c⟩ : Dev nD) = fwd c 7 := Fin.ext (k0_dev131_eq c)
@[sl_canon] theorem dev132_eq (c : Dev nD) : (⟨k0_dev132 c, k0_dev132_lt c⟩ : Dev nD) = fwd c 8 := Fin.ext (k0_dev132_eq c)
@[sl_canon] theorem dev133_eq (c : Dev nD) : (⟨k0_dev133 c, k0_dev133_lt c⟩ : Dev nD) = fwd c 9 := Fin.ext (k0_dev133_eq c)
@[sl_canon] theorem dev134_eq (c : Dev nD) : (⟨k0_dev134 c, k0_dev134_lt c⟩ : Dev nD) = fwd c 10 := Fin.ext (k0_dev134_eq c)
@[sl_canon] theorem dev135_eq (c : Dev nD) : (⟨k0_dev135 c, k0_dev135_lt c⟩ : Dev nD) = fwd c 11 := Fin.ext (k0_dev135_eq c)
@[sl_canon] theorem dev136_eq (c : Dev nD) : (⟨k0_dev136 c, k0_dev136_lt c⟩ : Dev nD) = fwd c 12 := Fin.ext (k0_dev136_eq c)
@[sl_canon] theorem dev137_eq (c : Dev nD) : (⟨k0_dev137 c, k0_dev137_lt c⟩ : Dev nD) = fwd c 13 := Fin.ext (k0_dev137_eq c)
@[sl_canon] theorem dev138_eq (c : Dev nD) : (⟨k0_dev138 c, k0_dev138_lt c⟩ : Dev nD) = fwd c 14 := Fin.ext (k0_dev138_eq c)
@[sl_canon] theorem dev139_eq (c : Dev nD) : (⟨k0_dev139 c, k0_dev139_lt c⟩ : Dev nD) = fwd c 15 := Fin.ext (k0_dev139_eq c)
@[sl_canon] theorem dev140_eq (c : Dev nD) : (⟨k0_dev140 c, k0_dev140_lt c⟩ : Dev nD) = fwd c 16 := Fin.ext (k0_dev140_eq c)
@[sl_canon] theorem dev141_eq (c : Dev nD) : (⟨k0_dev141 c, k0_dev141_lt c⟩ : Dev nD) = fwd c 17 := Fin.ext (k0_dev141_eq c)
@[sl_canon] theorem dev142_eq (c : Dev nD) : (⟨k0_dev142 c, k0_dev142_lt c⟩ : Dev nD) = fwd c 18 := Fin.ext (k0_dev142_eq c)
@[sl_canon] theorem dev143_eq (c : Dev nD) : (⟨k0_dev143 c, k0_dev143_lt c⟩ : Dev nD) = fwd c 19 := Fin.ext (k0_dev143_eq c)
@[sl_canon] theorem dev144_eq (c : Dev nD) : (⟨k0_dev144 c, k0_dev144_lt c⟩ : Dev nD) = fwd c 20 := Fin.ext (k0_dev144_eq c)
@[sl_canon] theorem dev145_eq (c : Dev nD) : (⟨k0_dev145 c, k0_dev145_lt c⟩ : Dev nD) = fwd c 21 := Fin.ext (k0_dev145_eq c)
@[sl_canon] theorem dev146_eq (c : Dev nD) : (⟨k0_dev146 c, k0_dev146_lt c⟩ : Dev nD) = fwd c 22 := Fin.ext (k0_dev146_eq c)
@[sl_canon] theorem dev147_eq (c : Dev nD) : (⟨k0_dev147 c, k0_dev147_lt c⟩ : Dev nD) = fwd c 23 := Fin.ext (k0_dev147_eq c)
@[sl_canon] theorem dev148_eq (c : Dev nD) : (⟨k0_dev148 c, k0_dev148_lt c⟩ : Dev nD) = fwd c 24 := Fin.ext (k0_dev148_eq c)
@[sl_canon] theorem dev149_eq (c : Dev nD) : (⟨k0_dev149 c, k0_dev149_lt c⟩ : Dev nD) = fwd c 25 := Fin.ext (k0_dev149_eq c)
@[sl_canon] theorem dev150_eq (c : Dev nD) : (⟨k0_dev150 c, k0_dev150_lt c⟩ : Dev nD) = fwd c 26 := Fin.ext (k0_dev150_eq c)
@[sl_canon] theorem dev151_eq (c : Dev nD) : (⟨k0_dev151 c, k0_dev151_lt c⟩ : Dev nD) = fwd c 27 := Fin.ext (k0_dev151_eq c)
@[sl_canon] theorem dev152_eq (c : Dev nD) : (⟨k0_dev152 c, k0_dev152_lt c⟩ : Dev nD) = fwd c 28 := Fin.ext (k0_dev152_eq c)
@[sl_canon] theorem dev153_eq (c : Dev nD) : (⟨k0_dev153 c, k0_dev153_lt c⟩ : Dev nD) = fwd c 29 := Fin.ext (k0_dev153_eq c)
@[sl_canon] theorem dev154_eq (c : Dev nD) : (⟨k0_dev154 c, k0_dev154_lt c⟩ : Dev nD) = fwd c 30 := Fin.ext (k0_dev154_eq c)
@[sl_canon] theorem dev155_eq (c : Dev nD) : (⟨k0_dev155 c, k0_dev155_lt c⟩ : Dev nD) = fwd c 31 := Fin.ext (k0_dev155_eq c)

end Cert.Kernel.AllReduce

end
-- ==== Proof.Word.OwedSteps.lean ====
/-
  The one-step equations of what a device still owes: payment n, in program order, peels one summand.
-/
import proofs.«900438_g7700000000000439_dist_gemm_ar_m1024_k1024_n1024_f32_gelu_v7x_i32_1_alg».proof.Proof.Word.Owed

noncomputable section

namespace Cert.Kernel.AllReduce

open Cert.Kernel Cert.Kernel.Gen
open Idealize.ShloMosaic Idealize.ShloMosaic.TcCoe

/-! Payments 0..30 are the signals; 31..61 and 62..92 the reduce copies of halves 0 and 1; 93..123 and 124..154 the gather copies. -/

theorem owed_step_0 (c : Dev nD) : owedAfter c 0 = owedAfter c 1 + tallyAt (barCell (fwd c 1)) () 1 :=
  owedAfter_step c 0 (barCell (fwd c 1), 1) ((payList c).drop 1) rfl

theorem owed_step_1 (c : Dev nD) : owedAfter c 1 = owedAfter c 2 + tallyAt (barCell (fwd c 2)) () 1 :=
  owedAfter_step c 1 (barCell (fwd c 2), 1) ((payList c).drop 2) rfl

theorem owed_step_2 (c : Dev nD) : owedAfter c 2 = owedAfter c 3 + tallyAt (barCell (fwd c 3)) () 1 :=
  owedAfter_step c 2 (barCell (fwd c 3), 1) ((payList c).drop 3) rfl

theorem owed_step_3 (c : Dev nD) : owedAfter c 3 = owedAfter c 4 + tallyAt (barCell (fwd c 4)) () 1 :=
  owedAfter_step c 3 (barCell (fwd c 4), 1) ((payList c).drop 4) rfl

theorem owed_step_4 (c : Dev nD) : owedAfter c 4 = owedAfter c 5 + tallyAt (barCell (fwd c 5)) () 1 :=
  owedAfter_step c 4 (barCell (fwd c 5), 1) ((payList c).drop 5) rfl

theorem owed_step_5 (c : Dev nD) : owedAfter c 5 = owedAfter c 6 + tallyAt (barCell (fwd c 6)) () 1 :=
  owedAfter_step c 5 (barCell (fwd c 6), 1) ((payList c).drop 6) rfl

theorem owed_step_6 (c : Dev nD) : owedAfter c 6 = owedAfter c 7 + tallyAt (barCell (fwd c 7)) () 1 :=
  owedAfter_step c 6 (barCell (fwd c 7), 1) ((payList c).drop 7) rfl

theorem owed_step_7 (c : Dev nD) : owedAfter c 7 = owedAfter c 8 + tallyAt (barCell (fwd c 8)) () 1 :=
  owedAfter_step c 7 (barCell (fwd c 8), 1) ((payList c).drop 8) rfl

theorem owed_step_8 (c : Dev nD) : owedAfter c 8 = owedAfter c 9 + tallyAt (barCell (fwd c 9)) () 1 :=
  owedAfter_step c 8 (barCell (fwd c 9), 1) ((payList c).drop 9) rfl

theorem owed_step_9 (c : Dev nD) : owedAfter c 9 = owedAfter c 10 + tallyAt (barCell (fwd c 10)) () 1 :=
  owedAfter_step c 9 (barCell (fwd c 10), 1) ((payList c).drop 10) rfl

theorem owed_step_10 (c : Dev nD) : owedAfter c 10 = owedAfter c 11 + tallyAt (barCell (fwd c 11)) () 1 :=
  owedAfter_step c 10 (barCell (fwd c 11), 1) ((payList c).drop 11) rfl

theorem owed_step_11 (c : Dev nD) : owedAfter c 11 = owedAfter c 12 + tallyAt (barCell (fwd c 12)) () 1 :=
  owedAfter_step c 11 (barCell (fwd c 12), 1) ((payList c).drop 12) rfl

theorem owed_step_12 (c : Dev nD) : owedAfter c 12 = owedAfter c 13 + tallyAt (barCell (fwd c 13)) () 1 :=
  owedAfter_step c 12 (barCell (fwd c 13), 1) ((payList c).drop 13) rfl

theorem owed_step_13 (c : Dev nD) : owedAfter c 13 = owedAfter c 14 + tallyAt (barCell (fwd c 14)) () 1 :=
  owedAfter_step c 13 (barCell (fwd c 14), 1) ((payList c).drop 14) rfl

theorem owed_step_14 (c : Dev nD) : owedAfter c 14 = owedAfter c 15 + tallyAt (barCell (fwd c 15)) () 1 :=
  owedAfter_step c 14 (barCell (fwd c 15), 1) ((payList c).drop 15) rfl

theorem owed_step_15 (c : Dev nD) : owedAfter c 15 = owedAfter c 16 + tallyAt (barCell (fwd c 16)) () 1 :=
  owedAfter_step c 15 (barCell (fwd c 16), 1) ((payList c).drop 16) rfl

theorem owed_step_16 (c : Dev nD) : owedAfter c 16 = owedAfter c 17 + tallyAt (barCell (fwd c 17)) () 1 :=
  owedAfter_step c 16 (barCell (fwd c 17), 1) ((payList c).drop 17) rfl

theorem owed_step_17 (c : Dev nD) : owedAfter c 17 = owedAfter c 18 + tallyAt (barCell (fwd c 18)) () 1 :=
  owedAfter_step c 17 (barCell (fwd c 18), 1) ((payList c).drop 18) rfl

theorem owed_step_18 (c : Dev nD) : owedAfter c 18 = owedAfter c 19 + tallyAt (barCell (fwd c 19)) () 1 :=
  owedAfter_step c 18 (barCell (fwd c 19), 1) ((payList c).drop 19) rfl

theorem owed_step_19 (c : Dev nD) : owedAfter c 19 = owedAfter c 20 + tallyAt (barCell (fwd c 20)) () 1 :=
  owedAfter_step c 19 (barCell (fwd c 20), 1) ((payList c).drop 20) rfl

theorem owed_step_20 (c : Dev nD) : owedAfter c 20 = owedAfter c 21 + tallyAt (barCell (fwd c 21)) () 1 :=
  owedAfter_step c 20 (barCell (fwd c 21), 1) ((payList c).drop 21) rfl

theorem owed_step_21 (c : Dev nD) : owedAfter c 21 = owedAfter c 22 + tallyAt (barCell (fwd c 22)) () 1 :=
  owedAfter_step c 21 (barCell (fwd c 22), 1) ((payList c).drop 22) rfl

theorem owed_step_22 (c : Dev nD) : owedAfter c 22 = owedAfter c 23 + tallyAt (barCell (fwd c 23)) () 1 :=
  owedAfter_step c 22 (barCell (fwd c 23), 1) ((payList c).drop 23) rfl

theorem owed_step_23 (c : Dev nD) : owedAfter c 23 = owedAfter c 24 + tallyAt (barCell (fwd c 24)) () 1 :=
  owedAfter_step c 23 (barCell (fwd c 24), 1) ((payList c).drop 24) rfl

theorem owed_step_24 (c : Dev nD) : owedAfter c 24 = owedAfter c 25 + tallyAt (barCell (fwd c 25)) () 1 :=
  owedAfter_step c 24 (barCell (fwd c 25), 1) ((payList c).drop 25) rfl

theorem owed_step_25 (c : Dev nD) : owedAfter c 25 = owedAfter c 26 + tallyAt (barCell (fwd c 26)) () 1 :=
  owedAfter_step c 25 (barCell (fwd c 26), 1) ((payList c).drop 26) rfl

theorem owed_step_26 (c : Dev nD) : owedAfter c 26 = owedAfter c 27 + tallyAt (barCell (fwd c 27)) () 1 :=
  owedAfter_step c 26 (barCell (fwd c 27), 1) ((payList c).drop 27) rfl

theorem owed_step_27 (c : Dev nD) : owedAfter c 27 = owedAfter c 28 + tallyAt (barCell (fwd c 28)) () 1 :=
  owedAfter_step c 27 (barCell (fwd c 28), 1) ((payList c).drop 28) rfl

theorem owed_step_28 (c : Dev nD) : owedAfter c 28 = owedAfter c 29 + tallyAt (barCell (fwd c 29)) () 1 :=
  owedAfter_step c 28 (barCell (fwd c 29), 1) ((payList c).drop 29) rfl

theorem owed_step_29 (c : Dev nD) : owedAfter c 29 = owedAfter c 30 + tallyAt (barCell (fwd c 30)) () 1 :=
  owedAfter_step c 29 (barCell (fwd c 30), 1) ((payList c).drop 30) rfl

theorem owed_step_30 (c : Dev nD) : owedAfter c 30 = owedAfter c 31 + tallyAt (barCell (fwd c 31)) () 1 :=
  owedAfter_step c 30 (barCell (fwd c 31), 1) ((payList c).drop 31) rfl

theorem owed_step_31 (c : Dev nD) : owedAfter c 31 = owedAfter c 32 + tallyAt (dmaCell (fwd c 1) rsR 0 1) () Nc :=
  owedAfter_step c 31 (dmaCell (fwd c 1) rsR 0 1, Nc) ((payList c).drop 32) rfl

theorem owed_step_32 (c : Dev nD) : owedAfter c 32 = owedAfter c 33 + tallyAt (dmaCell (fwd c 2) rsR 0 2) () Nc :=
  owedAfter_step c 32 (dmaCell (fwd c 2) rsR 0 2, Nc) ((payList c).drop 33) rfl

theorem owed_step_33 (c : Dev nD) : owedAfter c 33 = owedAfter c 34 + tallyAt (dmaCell (fwd c 3) rsR 0 3) () Nc :=
  owedAfter_step c 33 (dmaCell (fwd c 3) rsR 0 3, Nc) ((payList c).drop 34) rfl

theorem owed_step_34 (c : Dev nD) : owedAfter c 34 = owedAfter c 35 + tallyAt (dmaCell (fwd c 4) rsR 0 4) () Nc :=
  owedAfter_step c 34 (dmaCell (fwd c 4) rsR 0 4, Nc) ((payList c).drop 35) rfl

theorem owed_step_35 (c : Dev nD) : owedAfter c 35 = owedAfter c 36 + tallyAt (dmaCell (fwd c 5) rsR 0 5) () Nc :=
  owedAfter_step c 35 (dmaCell (fwd c 5) rsR 0 5, Nc) ((payList c).drop 36) rfl

theorem owed_step_36 (c : Dev nD) : owedAfter c 36 = owedAfter c 37 + tallyAt (dmaCell (fwd c 6) rsR 0 6) () Nc :=
  owedAfter_step c 36 (dmaCell (fwd c 6) rsR 0 6, Nc) ((payList c).drop 37) rfl

theorem owed_step_37 (c : Dev nD) : owedAfter c 37 = owedAfter c 38 + tallyAt (dmaCell (fwd c 7) rsR 0 7) () Nc :=
  owedAfter_step c 37 (dmaCell (fwd c 7) rsR 0 7, Nc) ((payList c).drop 38) rfl

theorem owed_step_38 (c : Dev nD) : owedAfter c 38 = owedAfter c 39 + tallyAt (dmaCell (fwd c 8) rsR 0 8) () Nc :=
  owedAfter_step c 38 (dmaCell (fwd c 8) rsR 0 8, Nc) ((payList c).drop 39) rfl

theorem owed_step_39 (c : Dev nD) : owedAfter c 39 = owedAfter c 40 + tallyAt (dmaCell (fwd c 9) rsR 0 9) () Nc :=
  owedAfter_step c 39 (dmaCell (fwd c 9) rsR 0 9, Nc) ((payList c).drop 40) rfl

theorem owed_step_40 (c : Dev nD) : owedAfter c 40 = owedAfter c 41 + tallyAt (dmaCell (fwd c 10) rsR 0 10) () Nc :=
  owedAfter_step c 40 (dmaCell (fwd c 10) rsR 0 10, Nc) ((payList c).drop 41) rfl

theorem owed_step_41 (c : Dev nD) : owedAfter c 41 = owedAfter c 42 + tallyAt (dmaCell (fwd c 11) rsR 0 11) () Nc :=
  owedAfter_step c 41 (dmaCell (fwd c 11) rsR 0 11, Nc) ((payList c).drop 42) rfl

theorem owed_step_42 (c : Dev nD) : owedAfter c 42 = owedAfter c 43 + tallyAt (dmaCell (fwd c 12) rsR 0 12) () Nc :=
  owedAfter_step c 42 (dmaCell (fwd c 12) rsR 0 12, Nc) ((payList c).drop 43) rfl

theorem owed_step_43 (c : Dev nD) : owedAfter c 43 = owedAfter c 44 + tallyAt (dmaCell (fwd c 13) rsR 0 13) () Nc :=
  owedAfter_step c 43 (dmaCell (fwd c 13) rsR 0 13, Nc) ((payList c).drop 44) rfl

theorem owed_step_44 (c : Dev nD) : owedAfter c 44 = owedAfter c 45 + tallyAt (dmaCell (fwd c 14) rsR 0 14) () Nc :=
  owedAfter_step c 44 (dmaCell (fwd c 14) rsR 0 14, Nc) ((payList c).drop 45) rfl

theorem owed_step_45 (c : Dev nD) : owedAfter c 45 = owedAfter c 46 + tallyAt (dmaCell (fwd c 15) rsR 0 15) () Nc :=
  owedAfter_step c 45 (dmaCell (fwd c 15) rsR 0 15, Nc) ((payList c).drop 46) rfl

theorem owed_step_46 (c : Dev nD) : owedAfter c 46 = owedAfter c 47 + tallyAt (dmaCell (fwd c 16) rsR 0 16) () Nc :=
  owedAfter_step c 46 (dmaCell (fwd c 16) rsR 0 16, Nc) ((payList c).drop 47) rfl

theorem owed_step_47 (c : Dev nD) : owedAfter c 47 = owedAfter c 48 + tallyAt (dmaCell (fwd c 17) rsR 0 17) () Nc :=
  owedAfter_step c 47 (dmaCell (fwd c 17) rsR 0 17, Nc) ((payList c).drop 48) rfl

theorem owed_step_48 (c : Dev nD) : owedAfter c 48 = owedAfter c 49 + tallyAt (dmaCell (fwd c 18) rsR 0 18) () Nc :=
  owedAfter_step c 48 (dmaCell (fwd c 18) rsR 0 18, Nc) ((payList c).drop 49) rfl

theorem owed_step_49 (c : Dev nD) : owedAfter c 49 = owedAfter c 50 + tallyAt (dmaCell (fwd c 19) rsR 0 19) () Nc :=
  owedAfter_step c 49 (dmaCell (fwd c 19) rsR 0 19, Nc) ((payList c).drop 50) rfl

theorem owed_step_50 (c : Dev nD) : owedAfter c 50 = owedAfter c 51 + tallyAt (dmaCell (fwd c 20) rsR 0 20) () Nc :=
  owedAfter_step c 50 (dmaCell (fwd c 20) rsR 0 20, Nc) ((payList c).drop 51) rfl

theorem owed_step_51 (c : Dev nD) : owedAfter c 51 = owedAfter c 52 + tallyAt (dmaCell (fwd c 21) rsR 0 21) () Nc :=
  owedAfter_step c 51 (dmaCell (fwd c 21) rsR 0 21, Nc) ((payList c).drop 52) rfl

theorem owed_step_52 (c : Dev nD) : owedAfter c 52 = owedAfter c 53 + tallyAt (dmaCell (fwd c 22) rsR 0 22) () Nc :=
  owedAfter_step c 52 (dmaCell (fwd c 22) rsR 0 22, Nc) ((payList c).drop 53) rfl

theorem owed_step_53 (c : Dev nD) : owedAfter c 53 = owedAfter c 54 + tallyAt (dmaCell (fwd c 23) rsR 0 23) () Nc :=
  owedAfter_step c 53 (dmaCell (fwd c 23) rsR 0 23, Nc) ((payList c).drop 54) rfl

theorem owed_step_54 (c : Dev nD) : owedAfter c 54 = owedAfter c 55 + tallyAt (dmaCell (fwd c 24) rsR 0 24) () Nc :=
  owedAfter_step c 54 (dmaCell (fwd c 24) rsR 0 24, Nc) ((payList c).drop 55) rfl

theorem owed_step_55 (c : Dev nD) : owedAfter c 55 = owedAfter c 56 + tallyAt (dmaCell (fwd c 25) rsR 0 25) () Nc :=
  owedAfter_step c 55 (dmaCell (fwd c 25) rsR 0 25, Nc) ((payList c).drop 56) rfl

theorem owed_step_56 (c : Dev nD) : owedAfter c 56 = owedAfter c 57 + tallyAt (dmaCell (fwd c 26) rsR 0 26) () Nc :=
  owedAfter_step c 56 (dmaCell (fwd c 26) rsR 0 26, Nc) ((payList c).drop 57) rfl

theorem owed_step_57 (c : Dev nD) : owedAfter c 57 = owedAfter c 58 + tallyAt (dmaCell (fwd c 27) rsR 0 27) () Nc :=
  owedAfter_step c 57 (dmaCell (fwd c 27) rsR 0 27, Nc) ((payList c).drop 58) rfl

theorem owed_step_58 (c : Dev nD) : owedAfter c 58 = owedAfter c 59 + tallyAt (dmaCell (fwd c 28) rsR 0 28) () Nc :=
  owedAfter_step c 58 (dmaCell (fwd c 28) rsR 0 28, Nc) ((payList c).drop 59) rfl

theorem owed_step_59 (c : Dev nD) : owedAfter c 59 = owedAfter c 60 + tallyAt (dmaCell (fwd c 29) rsR 0 29) () Nc :=
  owedAfter_step c 59 (dmaCell (fwd c 29) rsR 0 29, Nc) ((payList c).drop 60) rfl

theorem owed_step_60 (c : Dev nD) : owedAfter c 60 = owedAfter c 61 + tallyAt (dmaCell (fwd c 30) rsR 0 30) () Nc :=
  owedAfter_step c 60 (dmaCell (fwd c 30) rsR 0 30, Nc) ((payList c).drop 61) rfl

theorem owed_step_61 (c : Dev nD) : owedAfter c 61 = owedAfter c 62 + tallyAt (dmaCell (fwd c 31) rsR 0 31) () Nc :=
  owedAfter_step c 61 (dmaCell (fwd c 31) rsR 0 31, Nc) ((payList c).drop 62) rfl

theorem owed_step_62 (c : Dev nD) : owedAfter c 62 = owedAfter c 63 + tallyAt (dmaCell (fwd c 1) rsR 1 1) () Nc :=
  owedAfter_step c 62 (dmaCell (fwd c 1) rsR 1 1, Nc) ((payList c).drop 63) rfl

theorem owed_step_63 (c : Dev nD) : owedAfter c 63 = owedAfter c 64 + tallyAt (dmaCell (fwd c 2) rsR 1 2) () Nc :=
  owedAfter_step c 63 (dmaCell (fwd c 2) rsR 1 2, Nc) ((payList c).drop 64) rfl

theorem owed_step_64 (c : Dev nD) : owedAfter c 64 = owedAfter c 65 + tallyAt (dmaCell (fwd c 3) rsR 1 3) () Nc :=
  owedAfter_step c 64 (dmaCell (fwd c 3) rsR 1 3, Nc) ((payList c).drop 65) rfl

theorem owed_step_65 (c : Dev nD) : owedAfter c 65 = owedAfter c 66 + tallyAt (dmaCell (fwd c 4) rsR 1 4) () Nc :=
  owedAfter_step c 65 (dmaCell (fwd c 4) rsR 1 4, Nc) ((payList c).drop 66) rfl

theorem owed_step_66 (c : Dev nD) : owedAfter c 66 = owedAfter c 67 + tallyAt (dmaCell (fwd c 5) rsR 1 5) () Nc :=
  owedAfter_step c 66 (dmaCell (fwd c 5) rsR 1 5, Nc) ((payList c).drop 67) rfl

theorem owed_step_67 (c : Dev nD) : owedAfter c 67 = owedAfter c 68 + tallyAt (dmaCell (fwd c 6) rsR 1 6) () Nc :=
  owedAfter_step c 67 (dmaCell (fwd c 6) rsR 1 6, Nc) ((payList c).drop 68) rfl

theorem owed_step_68 (c : Dev nD) : owedAfter c 68 = owedAfter c 69 + tallyAt (dmaCell (fwd c 7) rsR 1 7) () Nc :=
  owedAfter_step c 68 (dmaCell (fwd c 7) rsR 1 7, Nc) ((payList c).drop 69) rfl

theorem owed_step_69 (c : Dev nD) : owedAfter c 69 = owedAfter c 70 + tallyAt (dmaCell (fwd c 8) rsR 1 8) () Nc :=
  owedAfter_step c 69 (dmaCell (fwd c 8) rsR 1 8, Nc) ((payList c).drop 70) rfl

theorem owed_step_70 (c : Dev nD) : owedAfter c 70 = owedAfter c 71 + tallyAt (dmaCell (fwd c 9) rsR 1 9) () Nc :=
  owedAfter_step c 70 (dmaCell (fwd c 9) rsR 1 9, Nc) ((payList c).drop 71) rfl

theorem owed_step_71 (c : Dev nD) : owedAfter c 71 = owedAfter c 72 + tallyAt (dmaCell (fwd c 10) rsR 1 10) () Nc :=
  owedAfter_step c 71 (dmaCell (fwd c 10) rsR 1 10, Nc) ((payList c).drop 72) rfl

theorem owed_step_72 (c : Dev nD) : owedAfter c 72 = owedAfter c 73 + tallyAt (dmaCell (fwd c 11) rsR 1 11) () Nc :=
  owedAfter_step c 72 (dmaCell (fwd c 11) rsR 1 11, Nc) ((payList c).drop 73) rfl

theorem owed_step_73 (c : Dev nD) : owedAfter c 73 = owedAfter c 74 + tallyAt (dmaCell (fwd c 12) rsR 1 12) () Nc :=
  owedAfter_step c 73 (dmaCell (fwd c 12) rsR 1 12, Nc) ((payList c).drop 74) rfl

theorem owed_step_74 (c : Dev nD) : owedAfter c 74 = owedAfter c 75 + tallyAt (dmaCell (fwd c 13) rsR 1 13) () Nc :=
  owedAfter_step c 74 (dmaCell (fwd c 13) rsR 1 13, Nc) ((payList c).drop 75) rfl

theorem owed_step_75 (c : Dev nD) : owedAfter c 75 = owedAfter c 76 + tallyAt (dmaCell (fwd c 14) rsR 1 14) () Nc :=
  owedAfter_step c 75 (dmaCell (fwd c 14) rsR 1 14, Nc) ((payList c).drop 76) rfl

theorem owed_step_76 (c : Dev nD) : owedAfter c 76 = owedAfter c 77 + tallyAt (dmaCell (fwd c 15) rsR 1 15) () Nc :=
  owedAfter_step c 76 (dmaCell (fwd c 15) rsR 1 15, Nc) ((payList c).drop 77) rfl

theorem owed_step_77 (c : Dev nD) : owedAfter c 77 = owedAfter c 78 + tallyAt (dmaCell (fwd c 16) rsR 1 16) () Nc :=
  owedAfter_step c 77 (dmaCell (fwd c 16) rsR 1 16, Nc) ((payList c).drop 78) rfl

theorem owed_step_78 (c : Dev nD) : owedAfter c 78 = owedAfter c 79 + tallyAt (dmaCell (fwd c 17) rsR 1 17) () Nc :=
  owedAfter_step c 78 (dmaCell (fwd c 17) rsR 1 17, Nc) ((payList c).drop 79) rfl

theorem owed_step_79 (c : Dev nD) : owedAfter c 79 = owedAfter c 80 + tallyAt (dmaCell (fwd c 18) rsR 1 18) () Nc :=
  owedAfter_step c 79 (dmaCell (fwd c 18) rsR 1 18, Nc) ((payList c).drop 80) rfl

theorem owed_step_80 (c : Dev nD) : owedAfter c 80 = owedAfter c 81 + tallyAt (dmaCell (fwd c 19) rsR 1 19) () Nc :=
  owedAfter_step c 80 (dmaCell (fwd c 19) rsR 1 19, Nc) ((payList c).drop 81) rfl

theorem owed_step_81 (c : Dev nD) : owedAfter c 81 = owedAfter c 82 + tallyAt (dmaCell (fwd c 20) rsR 1 20) () Nc :=
  owedAfter_step c 81 (dmaCell (fwd c 20) rsR 1 20, Nc) ((payList c).drop 82) rfl

theorem owed_step_82 (c : Dev nD) : owedAfter c 82 = owedAfter c 83 + tallyAt (dmaCell (fwd c 21) rsR 1 21) () Nc :=
  owedAfter_step c 82 (dmaCell (fwd c 21) rsR 1 21, Nc) ((payList c).drop 83) rfl

theorem owed_step_83 (c : Dev nD) : owedAfter c 83 = owedAfter c 84 + tallyAt (dmaCell (fwd c 22) rsR 1 22) () Nc :=
  owedAfter_step c 83 (dmaCell (fwd c 22) rsR 1 22, Nc) ((payList c).drop 84) rfl

theorem owed_step_84 (c : Dev nD) : owedAfter c 84 = owedAfter c 85 + tallyAt (dmaCell (fwd c 23) rsR 1 23) () Nc :=
  owedAfter_step c 84 (dmaCell (fwd c 23) rsR 1 23, Nc) ((payList c).drop 85) rfl

theorem owed_step_85 (c : Dev nD) : owedAfter c 85 = owedAfter c 86 + tallyAt (dmaCell (fwd c 24) rsR 1 24) () Nc :=
  owedAfter_step c 85 (dmaCell (fwd c 24) rsR 1 24, Nc) ((payList c).drop 86) rfl

theorem owed_step_86 (c : Dev nD) : owedAfter c 86 = owedAfter c 87 + tallyAt (dmaCell (fwd c 25) rsR 1 25) () Nc :=
  owedAfter_step c 86 (dmaCell (fwd c 25) rsR 1 25, Nc) ((payList c).drop 87) rfl

theorem owed_step_87 (c : Dev nD) : owedAfter c 87 = owedAfter c 88 + tallyAt (dmaCell (fwd c 26) rsR 1 26) () Nc :=
  owedAfter_step c 87 (dmaCell (fwd c 26) rsR 1 26, Nc) ((payList c).drop 88) rfl

theorem owed_step_88 (c : Dev nD) : owedAfter c 88 = owedAfter c 89 + tallyAt (dmaCell (fwd c 27) rsR 1 27) () Nc :=
  owedAfter_step c 88 (dmaCell (fwd c 27) rsR 1 27, Nc) ((payList c).drop 89) rfl

theorem owed_step_89 (c : Dev nD) : owedAfter c 89 = owedAfter c 90 + tallyAt (dmaCell (fwd c 28) rsR 1 28) () Nc :=
  owedAfter_step c 89 (dmaCell (fwd c 28) rsR 1 28, Nc) ((payList c).drop 90) rfl

theorem owed_step_90 (c : Dev nD) : owedAfter c 90 = owedAfter c 91 + tallyAt (dmaCell (fwd c 29) rsR 1 29) () Nc :=
  owedAfter_step c 90 (dmaCell (fwd c 29) rsR 1 29, Nc) ((payList c).drop 91) rfl

theorem owed_step_91 (c : Dev nD) : owedAfter c 91 = owedAfter c 92 + tallyAt (dmaCell (fwd c 30) rsR 1 30) () Nc :=
  owedAfter_step c 91 (dmaCell (fwd c 30) rsR 1 30, Nc) ((payList c).drop 92) rfl

theorem owed_step_92 (c : Dev nD) : owedAfter c 92 = owedAfter c 93 + tallyAt (dmaCell (fwd c 31) rsR 1 31) () Nc :=
  owedAfter_step c 92 (dmaCell (fwd c 31) rsR 1 31, Nc) ((payList c).drop 93) rfl

theorem owed_step_93 (c : Dev nD) : owedAfter c 93 = owedAfter c 94 + tallyAt (dmaCell (fwd c 1) agR 0 1) () Nc :=
  owedAfter_step c 93 (dmaCell (fwd c 1) agR 0 1, Nc) ((payList c).drop 94) rfl

theorem owed_step_94 (c : Dev nD) : owedAfter c 94 = owedAfter c 95 + tallyAt (dmaCell (fwd c 2) agR 0 2) () Nc :=
  owedAfter_step c 94 (dmaCell (fwd c 2) agR 0 2, Nc) ((payList c).drop 95) rfl

theorem owed_step_95 (c : Dev nD) : owedAfter c 95 = owedAfter c 96 + tallyAt (dmaCell (fwd c 3) agR 0 3) () Nc :=
  owedAfter_step c 95 (dmaCell (fwd c 3) agR 0 3, Nc) ((payList c).drop 96) rfl

theorem owed_step_96 (c : Dev nD) : owedAfter c 96 = owedAfter c 97 + tallyAt (dmaCell (fwd c 4) agR 0 4) () Nc :=
  owedAfter_step c 96 (dmaCell (fwd c 4) agR 0 4, Nc) ((payList c).drop 97) rfl

theorem owed_step_97 (c : Dev nD) : owedAfter c 97 = owedAfter c 98 + tallyAt (dmaCell (fwd c 5) agR 0 5) () Nc :=
  owedAfter_step c 97 (dmaCell (fwd c 5) agR 0 5, Nc) ((payList c).drop 98) rfl

theorem owed_step_98 (c : Dev nD) : owedAfter c 98 = owedAfter c 99 + tallyAt (dmaCell (fwd c 6) agR 0 6) () Nc :=
  owedAfter_step c 98 (dmaCell (fwd c 6) agR 0 6, Nc) ((payList c).drop 99) rfl

theorem owed_step_99 (c : Dev nD) : owedAfter c 99 = owedAfter c 100 + tallyAt (dmaCell (fwd c 7) agR 0 7) () Nc :=
  owedAfter_step c 99 (dmaCell (fwd c 7) agR 0 7, Nc) ((payList c).drop 100) rfl

theorem owed_step_100 (c : Dev nD) : owedAfter c 100 = owedAfter c 101 + tallyAt (dmaCell (fwd c 8) agR 0 8) () Nc :=
  owedAfter_step c 100 (dmaCell (fwd c 8) agR 0 8, Nc) ((payList c).drop 101) rfl

theorem owed_step_101 (c : Dev nD) : owedAfter c 101 = owedAfter c 102 + tallyAt (dmaCell (fwd c 9) agR 0 9) () Nc :=
  owedAfter_step c 101 (dmaCell (fwd c 9) agR 0 9, Nc) ((payList c).drop 102) rfl

theorem owed_step_102 (c : Dev nD) : owedAfter c 102 = owedAfter c 103 + tallyAt (dmaCell (fwd c 10) agR 0 10) () Nc :=
  owedAfter_step c 102 (dmaCell (fwd c 10) agR 0 10, Nc) ((payList c).drop 103) rfl

theorem owed_step_103 (c : Dev nD) : owedAfter c 103 = owedAfter c 104 + tallyAt (dmaCell (fwd c 11) agR 0 11) () Nc :=
  owedAfter_step c 103 (dmaCell (fwd c 11) agR 0 11, Nc) ((payList c).drop 104) rfl

theorem owed_step_104 (c : Dev nD) : owedAfter c 104 = owedAfter c 105 + tallyAt (dmaCell (fwd c 12) agR 0 12) () Nc :=
  owedAfter_step c 104 (dmaCell (fwd c 12) agR 0 12, Nc) ((payList c).drop 105) rfl

theorem owed_step_105 (c : Dev nD) : owedAfter c 105 = owedAfter c 106 + tallyAt (dmaCell (fwd c 13) agR 0 13) () Nc :=
  owedAfter_step c 105 (dmaCell (fwd c 13) agR 0 13, Nc) ((payList c).drop 106) rfl

theorem owed_step_106 (c : Dev nD) : owedAfter c 106 = owedAfter c 107 + tallyAt (dmaCell (fwd c 14) agR 0 14) () Nc :=
  owedAfter_step c 106 (dmaCell (fwd c 14) agR 0 14, Nc) ((payList c).drop 107) rfl

theorem owed_step_107 (c : Dev nD) : owedAfter c 107 = owedAfter c 108 + tallyAt (dmaCell (fwd c 15) agR 0 15) () Nc :=
  owedAfter_step c 107 (dmaCell (fwd c 15) agR 0 15, Nc) ((payList c).drop 108) rfl

theorem owed_step_108 (c : Dev nD) : owedAfter c 108 = owedAfter c 109 + tallyAt (dmaCell (fwd c 16) agR 0 16) () Nc :=
  owedAfter_step c 108 (dmaCell (fwd c 16) agR 0 16, Nc) ((payList c).drop 109) rfl

theorem owed_step_109 (c : Dev nD) : owedAfter c 109 = owedAfter c 110 + tallyAt (dmaCell (fwd c 17) agR 0 17) () Nc :=
  owedAfter_step c 109 (dmaCell (fwd c 17) agR 0 17, Nc) ((payList c).drop 110) rfl

theorem owed_step_110 (c : Dev nD) : owedAfter c 110 = owedAfter c 111 + tallyAt (dmaCell (fwd c 18) agR 0 18) () Nc :=
  owedAfter_step c 110 (dmaCell (fwd c 18) agR 0 18, Nc) ((payList c).drop 111) rfl

theorem owed_step_111 (c : Dev nD) : owedAfter c 111 = owedAfter c 112 + tallyAt (dmaCell (fwd c 19) agR 0 19) () Nc :=
  owedAfter_step c 111 (dmaCell (fwd c 19) agR 0 19, Nc) ((payList c).drop 112) rfl

theorem owed_step_112 (c : Dev nD) : owedAfter c 112 = owedAfter c 113 + tallyAt (dmaCell (fwd c 20) agR 0 20) () Nc :=
  owedAfter_step c 112 (dmaCell (fwd c 20) agR 0 20, Nc) ((payList c).drop 113) rfl

theorem owed_step_113 (c : Dev nD) : owedAfter c 113 = owedAfter c 114 + tallyAt (dmaCell (fwd c 21) agR 0 21) () Nc :=
  owedAfter_step c 113 (dmaCell (fwd c 21) agR 0 21, Nc) ((payList c).drop 114) rfl

theorem owed_step_114 (c : Dev nD) : owedAfter c 114 = owedAfter c 115 + tallyAt (dmaCell (fwd c 22) agR 0 22) () Nc :=
  owedAfter_step c 114 (dmaCell (fwd c 22) agR 0 22, Nc) ((payList c).drop 115) rfl

theorem owed_step_115 (c : Dev nD) : owedAfter c 115 = owedAfter c 116 + tallyAt (dmaCell (fwd c 23) agR 0 23) () Nc :=
  owedAfter_step c 115 (dmaCell (fwd c 23) agR 0 23, Nc) ((payList c).drop 116) rfl

theorem owed_step_116 (c : Dev nD) : owedAfter c 116 = owedAfter c 117 + tallyAt (dmaCell (fwd c 24) agR 0 24) () Nc :=
  owedAfter_step c 116 (dmaCell (fwd c 24) agR 0 24, Nc) ((payList c).drop 117) rfl

theorem owed_step_117 (c : Dev nD) : owedAfter c 117 = owedAfter c 118 + tallyAt (dmaCell (fwd c 25) agR 0 25) () Nc :=
  owedAfter_step c 117 (dmaCell (fwd c 25) agR 0 25, Nc) ((payList c).drop 118) rfl

theorem owed_step_118 (c : Dev nD) : owedAfter c 118 = owedAfter c 119 + tallyAt (dmaCell (fwd c 26) agR 0 26) () Nc :=
  owedAfter_step c 118 (dmaCell (fwd c 26) agR 0 26, Nc) ((payList c).drop 119) rfl

theorem owed_step_119 (c : Dev nD) : owedAfter c 119 = owedAfter c 120 + tallyAt (dmaCell (fwd c 27) agR 0 27) () Nc :=
  owedAfter_step c 119 (dmaCell (fwd c 27) agR 0 27, Nc) ((payList c).drop 120) rfl

theorem owed_step_120 (c : Dev nD) : owedAfter c 120 = owedAfter c 121 + tallyAt (dmaCell (fwd c 28) agR 0 28) () Nc :=
  owedAfter_step c 120 (dmaCell (fwd c 28) agR 0 28, Nc) ((payList c).drop 121) rfl

theorem owed_step_121 (c : Dev nD) : owedAfter c 121 = owedAfter c 122 + tallyAt (dmaCell (fwd c 29) agR 0 29) () Nc :=
  owedAfter_step c 121 (dmaCell (fwd c 29) agR 0 29, Nc) ((payList c).drop 122) rfl

theorem owed_step_122 (c : Dev nD) : owedAfter c 122 = owedAfter c 123 + tallyAt (dmaCell (fwd c 30) agR 0 30) () Nc :=
  owedAfter_step c 122 (dmaCell (fwd c 30) agR 0 30, Nc) ((payList c).drop 123) rfl

theorem owed_step_123 (c : Dev nD) : owedAfter c 123 = owedAfter c 124 + tallyAt (dmaCell (fwd c 31) agR 0 31) () Nc :=
  owedAfter_step c 123 (dmaCell (fwd c 31) agR 0 31, Nc) ((payList c).drop 124) rfl

theorem owed_step_124 (c : Dev nD) : owedAfter c 124 = owedAfter c 125 + tallyAt (dmaCell (fwd c 1) agR 1 1) () Nc :=
  owedAfter_step c 124 (dmaCell (fwd c 1) agR 1 1, Nc) ((payList c).drop 125) rfl

theorem owed_step_125 (c : Dev nD) : owedAfter c 125 = owedAfter c 126 + tallyAt (dmaCell (fwd c 2) agR 1 2) () Nc :=
  owedAfter_step c 125 (dmaCell (fwd c 2) agR 1 2, Nc) ((payList c).drop 126) rfl

theorem owed_step_126 (c : Dev nD) : owedAfter c 126 = owedAfter c 127 + tallyAt (dmaCell (fwd c 3) agR 1 3) () Nc :=
  owedAfter_step c 126 (dmaCell (fwd c 3) agR 1 3, Nc) ((payList c).drop 127) rfl

theorem owed_step_127 (c : Dev nD) : owedAfter c 127 = owedAfter c 128 + tallyAt (dmaCell (fwd c 4) agR 1 4) () Nc :=
  owedAfter_step c 127 (dmaCell (fwd c 4) agR 1 4, Nc) ((payList c).drop 128) rfl

theorem owed_step_128 (c : Dev nD) : owedAfter c 128 = owedAfter c 129 + tallyAt (dmaCell (fwd c 5) agR 1 5) () Nc :=
  owedAfter_step c 128 (dmaCell (fwd c 5) agR 1 5, Nc) ((payList c).drop 129) rfl

theorem owed_step_129 (c : Dev nD) : owedAfter c 129 = owedAfter c 130 + tallyAt (dmaCell (fwd c 6) agR 1 6) () Nc :=
  owedAfter_step c 129 (dmaCell (fwd c 6) agR 1 6, Nc) ((payList c).drop 130) rfl

theorem owed_step_130 (c : Dev nD) : owedAfter c 130 = owedAfter c 131 + tallyAt (dmaCell (fwd c 7) agR 1 7) () Nc :=
  owedAfter_step c 130 (dmaCell (fwd c 7) agR 1 7, Nc) ((payList c).drop 131) rfl

theorem owed_step_131 (c : Dev nD) : owedAfter c 131 = owedAfter c 132 + tallyAt (dmaCell (fwd c 8) agR 1 8) () Nc :=
  owedAfter_step c 131 (dmaCell (fwd c 8) agR 1 8, Nc) ((payList c).drop 132) rfl

theorem owed_step_132 (c : Dev nD) : owedAfter c 132 = owedAfter c 133 + tallyAt (dmaCell (fwd c 9) agR 1 9) () Nc :=
  owedAfter_step c 132 (dmaCell (fwd c 9) agR 1 9, Nc) ((payList c).drop 133) rfl

theorem owed_step_133 (c : Dev nD) : owedAfter c 133 = owedAfter c 134 + tallyAt (dmaCell (fwd c 10) agR 1 10) () Nc :=
  owedAfter_step c 133 (dmaCell (fwd c 10) agR 1 10, Nc) ((payList c).drop 134) rfl

theorem owed_step_134 (c : Dev nD) : owedAfter c 134 = owedAfter c 135 + tallyAt (dmaCell (fwd c 11) agR 1 11) () Nc :=
  owedAfter_step c 134 (dmaCell (fwd c 11) agR 1 11, Nc) ((payList c).drop 135) rfl

theorem owed_step_135 (c : Dev nD) : owedAfter c 135 = owedAfter c 136 + tallyAt (dmaCell (fwd c 12) agR 1 12) () Nc :=
  owedAfter_step c 135 (dmaCell (fwd c 12) agR 1 12, Nc) ((payList c).drop 136) rfl

theorem owed_step_136 (c : Dev nD) : owedAfter c 136 = owedAfter c 137 + tallyAt (dmaCell (fwd c 13) agR 1 13) () Nc :=
  owedAfter_step c 136 (dmaCell (fwd c 13) agR 1 13, Nc) ((payList c).drop 137) rfl

theorem owed_step_137 (c : Dev nD) : owedAfter c 137 = owedAfter c 138 + tallyAt (dmaCell (fwd c 14) agR 1 14) () Nc :=
  owedAfter_step c 137 (dmaCell (fwd c 14) agR 1 14, Nc) ((payList c).drop 138) rfl

theorem owed_step_138 (c : Dev nD) : owedAfter c 138 = owedAfter c 139 + tallyAt (dmaCell (fwd c 15) agR 1 15) () Nc :=
  owedAfter_step c 138 (dmaCell (fwd c 15) agR 1 15, Nc) ((payList c).drop 139) rfl

theorem owed_step_139 (c : Dev nD) : owedAfter c 139 = owedAfter c 140 + tallyAt (dmaCell (fwd c 16) agR 1 16) () Nc :=
  owedAfter_step c 139 (dmaCell (fwd c 16) agR 1 16, Nc) ((payList c).drop 140) rfl

theorem owed_step_140 (c : Dev nD) : owedAfter c 140 = owedAfter c 141 + tallyAt (dmaCell (fwd c 17) agR 1 17) () Nc :=
  owedAfter_step c 140 (dmaCell (fwd c 17) agR 1 17, Nc) ((payList c).drop 141) rfl

theorem owed_step_141 (c : Dev nD) : owedAfter c 141 = owedAfter c 142 + tallyAt (dmaCell (fwd c 18) agR 1 18) () Nc :=
  owedAfter_step c 141 (dmaCell (fwd c 18) agR 1 18, Nc) ((payList c).drop 142) rfl

theorem owed_step_142 (c : Dev nD) : owedAfter c 142 = owedAfter c 143 + tallyAt (dmaCell (fwd c 19) agR 1 19) () Nc :=
  owedAfter_step c 142 (dmaCell (fwd c 19) agR 1 19, Nc) ((payList c).drop 143) rfl

theorem owed_step_143 (c : Dev nD) : owedAfter c 143 = owedAfter c 144 + tallyAt (dmaCell (fwd c 20) agR 1 20) () Nc :=
  owedAfter_step c 143 (dmaCell (fwd c 20) agR 1 20, Nc) ((payList c).drop 144) rfl

theorem owed_step_144 (c : Dev nD) : owedAfter c 144 = owedAfter c 145 + tallyAt (dmaCell (fwd c 21) agR 1 21) () Nc :=
  owedAfter_step c 144 (dmaCell (fwd c 21) agR 1 21, Nc) ((payList c).drop 145) rfl

theorem owed_step_145 (c : Dev nD) : owedAfter c 145 = owedAfter c 146 + tallyAt (dmaCell (fwd c 22) agR 1 22) () Nc :=
  owedAfter_step c 145 (dmaCell (fwd c 22) agR 1 22, Nc) ((payList c).drop 146) rfl

theorem owed_step_146 (c : Dev nD) : owedAfter c 146 = owedAfter c 147 + tallyAt (dmaCell (fwd c 23) agR 1 23) () Nc :=
  owedAfter_step c 146 (dmaCell (fwd c 23) agR 1 23, Nc) ((payList c).drop 147) rfl

theorem owed_step_147 (c : Dev nD) : owedAfter c 147 = owedAfter c 148 + tallyAt (dmaCell (fwd c 24) agR 1 24) () Nc :=
  owedAfter_step c 147 (dmaCell (fwd c 24) agR 1 24, Nc) ((payList c).drop 148) rfl

theorem owed_step_148 (c : Dev nD) : owedAfter c 148 = owedAfter c 149 + tallyAt (dmaCell (fwd c 25) agR 1 25) () Nc :=
  owedAfter_step c 148 (dmaCell (fwd c 25) agR 1 25, Nc) ((payList c).drop 149) rfl

theorem owed_step_149 (c : Dev nD) : owedAfter c 149 = owedAfter c 150 + tallyAt (dmaCell (fwd c 26) agR 1 26) () Nc :=
  owedAfter_step c 149 (dmaCell (fwd c 26) agR 1 26, Nc) ((payList c).drop 150) rfl

theorem owed_step_150 (c : Dev nD) : owedAfter c 150 = owedAfter c 151 + tallyAt (dmaCell (fwd c 27) agR 1 27) () Nc :=
  owedAfter_step c 150 (dmaCell (fwd c 27) agR 1 27, Nc) ((payList c).drop 151) rfl

theorem owed_step_151 (c : Dev nD) : owedAfter c 151 = owedAfter c 152 + tallyAt (dmaCell (fwd c 28) agR 1 28) () Nc :=
  owedAfter_step c 151 (dmaCell (fwd c 28) agR 1 28, Nc) ((payList c).drop 152) rfl

theorem owed_step_152 (c : Dev nD) : owedAfter c 152 = owedAfter c 153 + tallyAt (dmaCell (fwd c 29) agR 1 29) () Nc :=
  owedAfter_step c 152 (dmaCell (fwd c 29) agR 1 29, Nc) ((payList c).drop 153) rfl

theorem owed_step_153 (c : Dev nD) : owedAfter c 153 = owedAfter c 154 + tallyAt (dmaCell (fwd c 30) agR 1 30) () Nc :=
  owedAfter_step c 153 (dmaCell (fwd c 30) agR 1 30, Nc) ((payList c).drop 154) rfl

theorem owed_step_154 (c : Dev nD) : owedAfter c 154 = owedAfter c 155 + tallyAt (dmaCell (fwd c 31) agR 1 31) () Nc :=
  owedAfter_step c 154 (dmaCell (fwd c 31) agR 1 31, Nc) ((payList c).drop 155) rfl

theorem owed_end (c : Dev nD) : owedAfter c 155 = 0 := rfl

end Cert.Kernel.AllReduce

end
-- ==== Proof.Word.OwedWaits.lean ====
import proofs.«900438_g7700000000000439_dist_gemm_ar_m1024_k1024_n1024_f32_gelu_v7x_i32_1_alg».proof.Proof.Word.Owed
import proofs.«900438_g7700000000000439_dist_gemm_ar_m1024_k1024_n1024_f32_gelu_v7x_i32_1_alg».proof.Proof.Word.LaunchRun

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The waits' ledger evidence, at the points of the program where they stand -/

omit [FloatOps F] in
theorem drop_signals (c : Dev nD) : (payList c).drop 31
    = ks.map (fun k => (dmaCell (fwd c k) rsR 0 k, Nc)) ++ ks.map (fun k => (dmaCell (fwd c k) rsR 1 k, Nc))
      ++ ks.map (fun k => (dmaCell (fwd c k) agR 0 k, Nc)) ++ ks.map (fun k => (dmaCell (fwd c k) agR 1 k, Nc)) := rfl
omit [FloatOps F] in
theorem drop_reduce (c : Dev nD) : (payList c).drop 93
    = ks.map (fun k => (dmaCell (fwd c k) agR 0 k, Nc)) ++ ks.map (fun k => (dmaCell (fwd c k) agR 1 k, Nc)) := rfl
omit [FloatOps F] in
theorem drop_gather0 (c : Dev nD) : (payList c).drop 124 = ks.map (fun k => (dmaCell (fwd c k) agR 1 k, Nc)) := rfl

omit [FloatOps F] in
/-- The barrier wait: the 31 signals paid, the 124 copies owed, all to receive cells. -/
theorem mayWait_bar31 (c : Dev nD) : (levAts L lv : sProp 𝕄) ⊢ MayWait (c : Thread nD τ) (.reg barS) () (owedAfter c 31) :=
  mayWait_bar c ((payList c).drop 31) fun p hp => by
    rw [drop_signals] at hp
    simp only [List.mem_append, List.mem_map] at hp
    rcases hp with ((⟨k, -, rfl⟩ | ⟨k, -, rfl⟩) | ⟨k, -, rfl⟩) | ⟨k, -, rfl⟩
    · exact ⟨_, _, _, Or.inl rfl⟩
    · exact ⟨_, _, _, Or.inl rfl⟩
    · exact ⟨_, _, _, Or.inr rfl⟩
    · exact ⟨_, _, _, Or.inr rfl⟩

omit [FloatOps F] in
/-- The waits on the receive cells of the reduce phase, half 0: the gather copies owed. -/
theorem mayWait_rsR0 (c : Dev nD) (k : Fin 32) : (levAts L lv : sProp 𝕄) ⊢ MayWait (c : Thread nD τ) (.dma (semAt (arr rsR) 0 k)) () (owedAfter c 93) :=
  mayWait_rsR c 0 k ((payList c).drop 93) fun p hp => by
    rw [drop_reduce] at hp
    simp only [List.mem_append, List.mem_map] at hp
    rcases hp with ⟨k, -, rfl⟩ | ⟨k, -, rfl⟩
    · exact ⟨_, _, _, rfl⟩
    · exact ⟨_, _, _, rfl⟩

omit [FloatOps F] in
/-- Half 1: the gather copies of half 1 owed. -/
theorem mayWait_rsR1 (c : Dev nD) (k : Fin 32) : (levAts L lv : sProp 𝕄) ⊢ MayWait (c : Thread nD τ) (.dma (semAt (arr rsR) 1 k)) () (owedAfter c 124) :=
  mayWait_rsR c 1 k ((payList c).drop 124) fun p hp => by
    rw [drop_gather0] at hp
    simp only [List.mem_map] at hp
    obtain ⟨k, -, rfl⟩ := hp
    exact ⟨_, _, _, rfl⟩

omit [FloatOps F] in
/-- A wait with nothing owed. -/
theorem mayWait_end (c : Dev nD) (sm : SemLoc sig) : (levAts L lv : sProp 𝕄) ⊢ MayWait (c : Thread nD τ) sm () (owedAfter c 155) := by
  rw [show owedAfter c 155 = 0 from rfl, MayWait_zero]; iintro -; iempintro

omit [FloatOps F] in
/-- A wait on a send cell (level 0), whatever is still owed. -/
theorem mayWait_send (c : Dev nD) (p : Phase) (hp : p = rsS ∨ p = agS) (h : Fin 2) (k : Fin 32) (n : ℕ) :
    (levAts L lv : sProp 𝕄) ⊢ MayWait (c : Thread nD τ) (.dma (semAt (arr p) h k)) () (owedAfter c n) :=
  mayWait_low c _ (by rw [lv_dma]; rcases hp with rfl | rfl <;> rfl) ((payList c).drop n)
    fun q hq => payList_levels c q (List.mem_of_mem_drop hq)

end Cert.Kernel.AllReduce

end
-- ==== Proof.Word.BodyGlue.lean ====
import proofs.«900438_g7700000000000439_dist_gemm_ar_m1024_k1024_n1024_f32_gelu_v7x_i32_1_alg».proof.Proof.Word.Ghost

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The barrier wait's payloads, by the offset of the peer that signalled -/

omit [FloatOps F] in
theorem opp_opp : ∀ k : Fin 32, opp (opp k) = k := by decide +kernel
omit [FloatOps F] in
theorem opp_injective : Function.Injective opp := fun a b h => by rw [← opp_opp a, h, opp_opp]
omit [FloatOps F] in
theorem erase_map_opp : (Finset.univ.erase (0 : Fin 32)).map ⟨opp, opp_injective⟩ = Finset.univ.erase 0 := by decide +kernel

/-- What the signal of the device k places on hands device c: that device's two receive slots of offset k and its two
    gather rows of c's chunk, each whole at anything, and that its four receive cells of offset k stand at round 0. -/
def barGot (c : Dev nD) (k : Fin 32) : sProp 𝕄 :=
  iprop((∃ f, (slot 0 k).view.loc (fwd c k : Thread nD τ) ↦[(slot 0 k).view.set]{fullShare} f)
    ∗ (∃ f, (slot 1 k).view.loc (fwd c k : Thread nD τ) ↦[(slot 1 k).view.set]{fullShare} f)
    ∗ (∃ f, (chunk outM c 0).view.loc (fwd c k : Thread nD τ) ↦[(chunk outM c 0).view.set]{fullShare} f)
    ∗ (∃ f, (chunk outM c 1).view.loc (fwd c k : Thread nD τ) ↦[(chunk outM c 1).view.set]{fullShare} f)
    ∗ reached ER (dmaCell (fwd c k) rsR 0 k) 0 ∗ reached ER (dmaCell (fwd c k) rsR 1 k) 0
    ∗ reached ER (dmaCell (fwd c k) agR 0 k) 0 ∗ reached ER (dmaCell (fwd c k) agR 1 k) 0)

omit [FloatOps F] in
/-- The payload of duty opp k of c's barrier cell — the duty the device k places on pays — with the peer resolved. -/
theorem barPay_opp (c : Dev nD) (k : Fin 32) : (barPay c (opp k) : sProp 𝕄) = barGot c k := by
  unfold barPay barGot
  rw [bwd_opp, opp_opp]

omit [FloatOps F] in
theorem bar_payloads (c : Dev nD) : (bigSep (Finset.univ.erase (0 : Fin 32)) (fun d => (barPay c d : sProp 𝕄))) = bigSepL ks (fun k => barGot c k) := by
  conv_lhs => rw [← erase_map_opp, bigSep_map]
  rw [bigSep_eq_bigSepL_of_eq ks (by decide) (by decide)]
  simp only [Function.Embedding.coeFn_mk, barPay_opp]

/-- What the barrier wait returns, as 31 bundles by offset. -/
theorem rest_bar (c : Dev nD) :
    bigSep ((sched (F := F) m).duties (barCell c) 0 \ ∅) (fun d => (sched (F := F) m).payload (barCell c) 0 d) = bigSepL ks (fun k => barGot c k) := by
  rw [duties_bar, Finset.sdiff_empty]
  simp only [payload_bar]
  exact bar_payloads c

/-! ## Closing the cells -/

/-- A cell past its one round closes: its counter at zero is the device's again. -/
theorem close_cell (κ : ℕ) (g : GSem nD τ sig) :
    iprop(cellInv ER (sched m) κ g ∗ atPos ER g 1 ∅ 0) ⊢ (|={Set.univ}=> semVal g 0 : sProp 𝕄) :=
  Rounds.cell_close ER (sched m) (Set.mem_univ κ) (fun h => h) (R := 1) (duties_later m g)

/-- The 31 cells of array p, half h. -/
theorem close_cells (K : GSem nD τ sig → ℕ) (c : Dev nD) (p : Phase) (h : Fin 2) :
    bigSepL ks (fun k => iprop(cellInv ER (sched m) (K (dmaCell c p h k)) (dmaCell c p h k) ∗ atPos ER (dmaCell c p h k) 1 ∅ 0))
      ⊢ (|={Set.univ}=> bigSepL ks (fun k => semVal (dmaCell c p h k) 0) : sProp 𝕄) := by
  rw [← bigSep_eq_bigSepL ks (by decide), ← bigSep_eq_bigSepL ks (by decide)]
  exact (bigSep_mono fun k _ => close_cell m (K (dmaCell c p h k)) (dmaCell c p h k)).trans (bigSep_fupd _ _)

/-! ## The chunk cells' payloads, with the peer resolved -/

section Payloads
variable (c : Dev nD) (h : Fin 2) (k : Fin 32)

/-- Owner side. -/
theorem payload_rsS : (sched m).payload (dmaCell c rsS h k) 0 (0 : Fin 32)
    = ((chunk accM (fwd c k) h).view.loc (c : Thread nD τ) ↦[(chunk accM (fwd c k) h).view.set]{fullShare} (chunk accM (fwd c k) h).view.rep (sent m c (fwd c k) h)) := by
  rw [payload_dma]; rfl
theorem payload_rsR : (sched m).payload (dmaCell c rsR h k) 0 (0 : Fin 32)
    = ((slot h k).view.loc (c : Thread nD τ) ↦[(slot h k).view.set]{fullShare} (slot h k).view.rep (sent m (bwd c k) c h)) := by
  rw [payload_dma]; rfl
theorem payload_agS : (sched m).payload (dmaCell c agS h k) 0 (0 : Fin 32)
    = ((chunk outM c h).view.loc (c : Thread nD τ) ↦[(chunk outM c h).view.set]{shr k} (chunk outM c h).view.rep (reduced m c h)) := by
  rw [payload_dma]; rfl
theorem payload_agR : (sched m).payload (dmaCell c agR h k) 0 (0 : Fin 32)
    = ((chunk outM (bwd c k) h).view.loc (c : Thread nD τ) ↦[(chunk outM (bwd c k) h).view.set]{fullShare} (chunk outM (bwd c k) h).view.rep (reduced m (bwd c k) h)) := by
  rw [payload_dma]; rfl

/-- Payer side: what device c's copies of offset k land on the device k places on. -/
theorem payload_rsR_to : (sched m).payload (dmaCell (fwd c k) rsR h k) 0 (0 : Fin 32)
    = ((slot h k).view.loc (fwd c k : Thread nD τ) ↦[(slot h k).view.set]{fullShare} (slot h k).view.rep (sent m c (fwd c k) h)) := by
  rw [payload_rsR, bwd_fwd]
theorem payload_agR_to : (sched m).payload (dmaCell (fwd c k) agR h k) 0 (0 : Fin 32)
    = ((chunk outM c h).view.loc (fwd c k : Thread nD τ) ↦[(chunk outM c h).view.set]{fullShare} (chunk outM c h).view.rep (reduced m c h)) := by
  rw [payload_agR, bwd_fwd]

end Payloads

end Cert.Kernel.AllReduce

end
-- ==== Proof.Word.SendRules.lean ====
/-
  The two remote copies of the all-reduce, one offset at a time: a row chunk of the partial product sent into the
  slot of the device `k` places on, and a finished chunk of the gather buffer sent into the same rows there.  The
  landing writes the block the source holds; held by the destination view's own elements, the destination at the
  block written is the destination at the block.
-/
import proofs.«900438_g7700000000000439_dist_gemm_ar_m1024_k1024_n1024_f32_gelu_v7x_i32_1_alg».proof.Proof.Word.BodyGlue
import Idealize.ShloMosaic.Lib.Exec.Geometry
import Idealize.ShloMosaic.Lib.Exec.Context

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Held by the view's own elements, the buffer after a whole write of `X` through the view is the buffer at `X`. -/
theorem pointsTo_write_eq_rep {cs : Space} {s : Shape} {e : EltTy} (c' : Thread nD τ) (v : Memref sig c'.2.kind cs s e)
    (fd : Buf (Elt F) (v.view.loc c')) (X : s.Idx → Elt F e) (q : PosShare TreeShare) :
    (v.view.loc c' ↦[v.view.set]{q} v.view.write (Elt F) fd X Finset.univ : sProp 𝕄)
      = v.view.loc c' ↦[v.view.set]{q} v.view.rep X :=
  pointsTo_congr fun i hi => by
    obtain ⟨y, -, rfl⟩ := Finset.mem_map.mp hi
    rw [View.write_emb_of_mem _ _ (Finset.mem_univ _), View.rep_emb]

section Sends
variable (K : GSem nD τ sig → ℕ) (c : Dev nD) (h : Fin 2) (k : Fin 32)

/-- THE REDUCE COPY of offset `k`, half `h`: row chunk `fwd c k` of `c`'s partial product into slot `k` of the device `k` places on. -/
theorem wp_send_rs (hk : k ≠ 0)
    {hsc : (slot h k).view.ref.isScScratch = false}
    {hsrc : (chunk accM (fwd c k) h).view.WordExact} {hdst : (slot h k).view.WordExact}
    {hsem : DmaTarget.Typed .vmem (.dma (semAt (arr rsR) h k)) (.remote (Dev.tc (fwd c k) : Thread nD τ) (slot h k) (.dma (semAt (arr rsS) h k)) hsc)}
    {α : Type} {Q : α → sProp (MT nD τ sig Unit (Elt F) ℕ UU ℕ)} {kk : PUnit → Prog (TpuEff nD τ sig (Elt F) Λ₀ .tc) α}
    (fd : Buf (Elt F) ((slot h k).view.loc (fwd c k : Thread nD τ))) (W : Waits sig Unit) (O O' : CellTallies nD τ sig Unit)
    (hO : O = O' + tallyAt (dmaCell (fwd c k) rsR h k) () Nc) :
    (iprop(cellInv ER (sched m) (K (dmaCell c rsS h k)) (dmaCell c rsS h k) ∗ cellInv ER (sched m) (K (dmaCell (fwd c k) rsR h k)) (dmaCell (fwd c k) rsR h k)
        ∗ ((chunk accM (fwd c k) h).view.loc (c : Thread nD τ) ↦[(chunk accM (fwd c k) h).view.set]{fullShare} (chunk accM (fwd c k) h).view.rep (sent m c (fwd c k) h))
        ∗ ((slot h k).view.loc (fwd c k : Thread nD τ) ↦[(slot h k).view.set]{fullShare} fd)
        ∗ owes (c : Thread nD τ) O W
        ∗ dutyTok ER (dmaCell c rsS h k) 0 (0 : Fin 32) ∗ reached ER (dmaCell c rsS h k) 0
        ∗ dutyTok ER (dmaCell (fwd c k) rsR h k) 0 (0 : Fin 32) ∗ reached ER (dmaCell (fwd c k) rsR h k) 0) : sProp 𝕄)
      ⊢ iprop(((cred (tallyAt (dmaCell c rsS h k) () Nc) ∗ owes (c : Thread nD τ) O' W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (chunk accM (fwd c k) h) (.remote (Dev.tc (fwd c k) : Thread nD τ) (slot h k) (.dma (semAt (arr rsS) h k)) hsc)
                (.dma (semAt (arr rsR) h k)) hsrc hdst hsem) kk) Q) := by
  have hpay₁ : ((chunk accM (fwd c k) h).view.loc (c : Thread nD τ) ↦[(chunk accM (fwd c k) h).view.set]{fullShare}
        (chunk accM (fwd c k) h).view.rep (sent m c (fwd c k) h) : sProp 𝕄)
      ⊢ (sched m).payload (dmaCell c rsS h k) 0 (0 : Fin 32) := Entails.of_eq (payload_rsS m c h k).symm
  have hpay₂ : ((slot h k).view.loc (fwd c k : Thread nD τ) ↦[(slot h k).view.set]{fullShare}
        ((slot h k).view.write (Elt F) fd
          ((chunk accM (fwd c k) h).view.read (Elt F) ((chunk accM (fwd c k) h).view.rep (sent m c (fwd c k) h))) Finset.univ) : sProp 𝕄)
      ⊢ (sched m).payload (dmaCell (fwd c k) rsR h k) 0 (0 : Fin 32) := by
    rw [payload_rsR_to, View.read_rep]
    exact Entails.of_eq (pointsTo_write_eq_rep (fwd c k : Thread nD τ) (slot h k) fd (sent m c (fwd c k) h) fullShare)
  exact Rounds.wp_send_pointsTo (defs := defs₀ (F := F)) (Γ := .empty) (Q := Q) 𝒱₀ ER (sched m) (c : Thread nD τ) none
    (c' := (fwd c k : Thread nD τ)) (src := chunk accM (fwd c k) h) (dst := slot h k) (hsc := hsc)
    (sS := .dma (semAt (arr rsS) h k)) (sem := .dma (semAt (arr rsR) h k)) (hsrc := hsrc) (hdst := hdst) (hsem := hsem) (k := kk)
    (q := fullShare) (fs := (chunk accM (fwd c k) h).view.rep (sent m c (fwd c k) h)) (fd := fd)
    (r₁ := 0) (r₂ := 0) (d₁ := (0 : Fin 32)) (d₂ := (0 : Fin 32))
    (κ₁ := K (dmaCell c rsS h k)) (κ₂ := K (dmaCell (fwd c k) rsR h k))
    (by rw [duties_dma m c rsS h k hk]; exact Finset.mem_singleton_self _)
    (by rw [duties_dma m (fwd c k) rsR h k hk]; exact Finset.mem_singleton_self _)
    () () Nc rfl (amount_dma m c rsS h k 0) (amount_dma m (fwd c k) rsR h k 0) O' hO (W := W) hpay₁ hpay₂ (Es := Set.univ) (Topo.routes_tc _ _)

/-- THE GATHER COPY of offset `k`, half `h`: `c`'s finished chunk into the same rows of the gather buffer of the device `k` places on;
    the source is lent at the share of offset `k`. -/
theorem wp_send_ag (hk : k ≠ 0)
    {hsc : (chunk outM c h).view.ref.isScScratch = false}
    {hsrc : (chunk outM c h).view.WordExact} {hdst : (chunk outM c h).view.WordExact}
    {hsem : DmaTarget.Typed .vmem (.dma (semAt (arr agR) h k)) (.remote (Dev.tc (fwd c k) : Thread nD τ) (chunk outM c h) (.dma (semAt (arr agS) h k)) hsc)}
    {α : Type} {Q : α → sProp (MT nD τ sig Unit (Elt F) ℕ UU ℕ)} {kk : PUnit → Prog (TpuEff nD τ sig (Elt F) Λ₀ .tc) α}
    (fd : Buf (Elt F) ((chunk outM c h).view.loc (fwd c k : Thread nD τ))) (W : Waits sig Unit) (O O' : CellTallies nD τ sig Unit)
    (hO : O = O' + tallyAt (dmaCell (fwd c k) agR h k) () Nc) :
    (iprop(cellInv ER (sched m) (K (dmaCell c agS h k)) (dmaCell c agS h k) ∗ cellInv ER (sched m) (K (dmaCell (fwd c k) agR h k)) (dmaCell (fwd c k) agR h k)
        ∗ ((chunk outM c h).view.loc (c : Thread nD τ) ↦[(chunk outM c h).view.set]{shr k} (chunk outM c h).view.rep (reduced m c h))
        ∗ ((chunk outM c h).view.loc (fwd c k : Thread nD τ) ↦[(chunk outM c h).view.set]{fullShare} fd)
        ∗ owes (c : Thread nD τ) O W
        ∗ dutyTok ER (dmaCell c agS h k) 0 (0 : Fin 32) ∗ reached ER (dmaCell c agS h k) 0
        ∗ dutyTok ER (dmaCell (fwd c k) agR h k) 0 (0 : Fin 32) ∗ reached ER (dmaCell (fwd c k) agR h k) 0) : sProp 𝕄)
      ⊢ iprop(((cred (tallyAt (dmaCell c agS h k) () Nc) ∗ owes (c : Thread nD τ) O' W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (chunk outM c h) (.remote (Dev.tc (fwd c k) : Thread nD τ) (chunk outM c h) (.dma (semAt (arr agS) h k)) hsc)
                (.dma (semAt (arr agR) h k)) hsrc hdst hsem) kk) Q) := by
  have hpay₁ : ((chunk outM c h).view.loc (c : Thread nD τ) ↦[(chunk outM c h).view.set]{shr k} (chunk outM c h).view.rep (reduced m c h) : sProp 𝕄)
      ⊢ (sched m).payload (dmaCell c agS h k) 0 (0 : Fin 32) := Entails.of_eq (payload_agS m c h k).symm
  have hpay₂ : ((chunk outM c h).view.loc (fwd c k : Thread nD τ) ↦[(chunk outM c h).view.set]{fullShare}
        ((chunk outM c h).view.write (Elt F) fd
          ((chunk outM c h).view.read (Elt F) ((chunk outM c h).view.rep (reduced m c h))) Finset.univ) : sProp 𝕄)
      ⊢ (sched m).payload (dmaCell (fwd c k) agR h k) 0 (0 : Fin 32) := by
    rw [payload_agR_to, View.read_rep]
    exact Entails.of_eq (pointsTo_write_eq_rep (fwd c k : Thread nD τ) (chunk outM c h) fd (reduced m c h) fullShare)
  exact Rounds.wp_send_pointsTo (defs := defs₀ (F := F)) (Γ := .empty) (Q := Q) 𝒱₀ ER (sched m) (c : Thread nD τ) none
    (c' := (fwd c k : Thread nD τ)) (src := chunk outM c h) (dst := chunk outM c h) (hsc := hsc)
    (sS := .dma (semAt (arr agS) h k)) (sem := .dma (semAt (arr agR) h k)) (hsrc := hsrc) (hdst := hdst) (hsem := hsem) (k := kk)
    (q := shr k) (fs := (chunk outM c h).view.rep (reduced m c h)) (fd := fd)
    (r₁ := 0) (r₂ := 0) (d₁ := (0 : Fin 32)) (d₂ := (0 : Fin 32))
    (κ₁ := K (dmaCell c agS h k)) (κ₂ := K (dmaCell (fwd c k) agR h k))
    (by rw [duties_dma m c agS h k hk]; exact Finset.mem_singleton_self _)
    (by rw [duties_dma m (fwd c k) agR h k hk]; exact Finset.mem_singleton_self _)
    () () Nc rfl (amount_dma m c agS h k 0) (amount_dma m (fwd c k) agR h k 0) O' hO (W := W) hpay₁ hpay₂ (Es := Set.univ) (Topo.routes_tc _ _)

end Sends

/-- info: 'Cert.Kernel.AllReduce.wp_send_rs' depends on axioms: [propext, Classical.choice, Quot.sound] -/
#guard_msgs in #print axioms wp_send_rs

/-- info: 'Cert.Kernel.AllReduce.wp_send_ag' depends on axioms: [propext, Classical.choice, Quot.sound] -/
#guard_msgs in #print axioms wp_send_ag

end Cert.Kernel.AllReduce

end
-- ==== Proof.Word.BodyTables.lean ====
/-
  The schedule's payload entries spelt out at the cells a device pays into and at the cells it owns: the rewrites by which
  the symbolic run reads what a signal or a wait hands over.
-/
import proofs.«900438_g7700000000000439_dist_gemm_ar_m1024_k1024_n1024_f32_gelu_v7x_i32_1_alg».proof.Proof.Word.Owed
import proofs.«900438_g7700000000000439_dist_gemm_ar_m1024_k1024_n1024_f32_gelu_v7x_i32_1_alg».proof.Proof.Word.Names
import proofs.«900438_g7700000000000439_dist_gemm_ar_m1024_k1024_n1024_f32_gelu_v7x_i32_1_alg».proof.Proof.Word.OwedSteps
import proofs.«900438_g7700000000000439_dist_gemm_ar_m1024_k1024_n1024_f32_gelu_v7x_i32_1_alg».proof.Proof.Word.OwedWaits
import proofs.«900438_g7700000000000439_dist_gemm_ar_m1024_k1024_n1024_f32_gelu_v7x_i32_1_alg».proof.Proof.Word.SendRules
noncomputable section
namespace Cert.Kernel.AllReduce
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

theorem pay_bar_payer (c : Dev nD) (k : Fin 32) : (sched (F := F) m).payload (barCell (fwd c k)) 0 k =
    iprop((∃ f, (slot 0 (opp k)).view.loc (c : Thread nD τ) ↦[(slot 0 (opp k)).view.set]{fullShare} f)
    ∗ (∃ f, (slot 1 (opp k)).view.loc (c : Thread nD τ) ↦[(slot 1 (opp k)).view.set]{fullShare} f)
    ∗ (∃ f, (chunk outM (fwd c k) 0).view.loc (c : Thread nD τ) ↦[(chunk outM (fwd c k) 0).view.set]{fullShare} f)
    ∗ (∃ f, (chunk outM (fwd c k) 1).view.loc (c : Thread nD τ) ↦[(chunk outM (fwd c k) 1).view.set]{fullShare} f)
    ∗ reached ER (dmaCell c rsR 0 (opp k)) 0 ∗ reached ER (dmaCell c rsR 1 (opp k)) 0
    ∗ reached ER (dmaCell c agR 0 (opp k)) 0 ∗ reached ER (dmaCell c agR 1 (opp k)) 0) := by
  rw [payload_bar]; unfold barPay; rw [bwd_fwd]
theorem pay_rsS (c : Dev nD) (h : Fin 2) (k : Fin 32) : (sched (F := F) m).payload (dmaCell c rsS h k) 0 (0 : Fin 32)
    = ((chunk accM (fwd c k) h).view.loc (c : Thread nD τ) ↦[(chunk accM (fwd c k) h).view.set]{fullShare} (chunk accM (fwd c k) h).view.rep (sent m c (fwd c k) h)) := by rw [payload_dma]; rfl
theorem pay_rsR (c : Dev nD) (h : Fin 2) (k : Fin 32) : (sched (F := F) m).payload (dmaCell c rsR h k) 0 (0 : Fin 32)
    = ((slot h k).view.loc (c : Thread nD τ) ↦[(slot h k).view.set]{fullShare} (slot h k).view.rep (sent m (bwd c k) c h)) := by rw [payload_dma]; rfl
theorem pay_agS (c : Dev nD) (h : Fin 2) (k : Fin 32) : (sched (F := F) m).payload (dmaCell c agS h k) 0 (0 : Fin 32)
    = ((chunk outM c h).view.loc (c : Thread nD τ) ↦[(chunk outM c h).view.set]{shr k} (chunk outM c h).view.rep (reduced m c h)) := by rw [payload_dma]; rfl
theorem pay_agR (c : Dev nD) (h : Fin 2) (k : Fin 32) : (sched (F := F) m).payload (dmaCell c agR h k) 0 (0 : Fin 32)
    = ((chunk outM (bwd c k) h).view.loc (c : Thread nD τ) ↦[(chunk outM (bwd c k) h).view.set]{fullShare} (chunk outM (bwd c k) h).view.rep (reduced m (bwd c k) h)) := by rw [payload_dma]; rfl

/-! The same at each literal offset, the slot index evaluated (offset k speaks of slot 32 − k). -/

theorem pay_bar_payer_1 (c : Dev nD) : (sched (F := F) m).payload (barCell (fwd c 1)) 0 (1 : Fin 32) =
    iprop((∃ f, (slot 0 31).view.loc (c : Thread nD τ) ↦[(slot 0 31).view.set]{fullShare} f)
    ∗ (∃ f, (slot 1 31).view.loc (c : Thread nD τ) ↦[(slot 1 31).view.set]{fullShare} f)
    ∗ (∃ f, (chunk outM (fwd c 1) 0).view.loc (c : Thread nD τ) ↦[(chunk outM (fwd c 1) 0).view.set]{fullShare} f)
    ∗ (∃ f, (chunk outM (fwd c 1) 1).view.loc (c : Thread nD τ) ↦[(chunk outM (fwd c 1) 1).view.set]{fullShare} f)
    ∗ reached ER (dmaCell c rsR 0 31) 0 ∗ reached ER (dmaCell c rsR 1 31) 0
    ∗ reached ER (dmaCell c agR 0 31) 0 ∗ reached ER (dmaCell c agR 1 31) 0) := pay_bar_payer m c 1
theorem pay_bar_payer_2 (c : Dev nD) : (sched (F := F) m).payload (barCell (fwd c 2)) 0 (2 : Fin 32) =
    iprop((∃ f, (slot 0 30).view.loc (c : Thread nD τ) ↦[(slot 0 30).view.set]{fullShare} f)
    ∗ (∃ f, (slot 1 30).view.loc (c : Thread nD τ) ↦[(slot 1 30).view.set]{fullShare} f)
    ∗ (∃ f, (chunk outM (fwd c 2) 0).view.loc (c : Thread nD τ) ↦[(chunk outM (fwd c 2) 0).view.set]{fullShare} f)
    ∗ (∃ f, (chunk outM (fwd c 2) 1).view.loc (c : Thread nD τ) ↦[(chunk outM (fwd c 2) 1).view.set]{fullShare} f)
    ∗ reached ER (dmaCell c rsR 0 30) 0 ∗ reached ER (dmaCell c rsR 1 30) 0
    ∗ reached ER (dmaCell c agR 0 30) 0 ∗ reached ER (dmaCell c agR 1 30) 0) := pay_bar_payer m c 2
theorem pay_bar_payer_3 (c : Dev nD) : (sched (F := F) m).payload (barCell (fwd c 3)) 0 (3 : Fin 32) =
    iprop((∃ f, (slot 0 29).view.loc (c : Thread nD τ) ↦[(slot 0 29).view.set]{fullShare} f)
    ∗ (∃ f, (slot 1 29).view.loc (c : Thread nD τ) ↦[(slot 1 29).view.set]{fullShare} f)
    ∗ (∃ f, (chunk outM (fwd c 3) 0).view.loc (c : Thread nD τ) ↦[(chunk outM (fwd c 3) 0).view.set]{fullShare} f)
    ∗ (∃ f, (chunk outM (fwd c 3) 1).view.loc (c : Thread nD τ) ↦[(chunk outM (fwd c 3) 1).view.set]{fullShare} f)
    ∗ reached ER (dmaCell c rsR 0 29) 0 ∗ reached ER (dmaCell c rsR 1 29) 0
    ∗ reached ER (dmaCell c agR 0 29) 0 ∗ reached ER (dmaCell c agR 1 29) 0) := pay_bar_payer m c 3
theorem pay_bar_payer_4 (c : Dev nD) : (sched (F := F) m).payload (barCell (fwd c 4)) 0 (4 : Fin 32) =
    iprop((∃ f, (slot 0 28).view.loc (c : Thread nD τ) ↦[(slot 0 28).view.set]{fullShare} f)
    ∗ (∃ f, (slot 1 28).view.loc (c : Thread nD τ) ↦[(slot 1 28).view.set]{fullShare} f)
    ∗ (∃ f, (chunk outM (fwd c 4) 0).view.loc (c : Thread nD τ) ↦[(chunk outM (fwd c 4) 0).view.set]{fullShare} f)
    ∗ (∃ f, (chunk outM (fwd c 4) 1).view.loc (c : Thread nD τ) ↦[(chunk outM (fwd c 4) 1).view.set]{fullShare} f)
    ∗ reached ER (dmaCell c rsR 0 28) 0 ∗ reached ER (dmaCell c rsR 1 28) 0
    ∗ reached ER (dmaCell c agR 0 28) 0 ∗ reached ER (dmaCell c agR 1 28) 0) := pay_bar_payer m c 4
theorem pay_bar_payer_5 (c : Dev nD) : (sched (F := F) m).payload (barCell (fwd c 5)) 0 (5 : Fin 32) =
    iprop((∃ f, (slot 0 27).view.loc (c : Thread nD τ) ↦[(slot 0 27).view.set]{fullShare} f)
    ∗ (∃ f, (slot 1 27).view.loc (c : Thread nD τ) ↦[(slot 1 27).view.set]{fullShare} f)
    ∗ (∃ f, (chunk outM (fwd c 5) 0).view.loc (c : Thread nD τ) ↦[(chunk outM (fwd c 5) 0).view.set]{fullShare} f)
    ∗ (∃ f, (chunk outM (fwd c 5) 1).view.loc (c : Thread nD τ) ↦[(chunk outM (fwd c 5) 1).view.set]{fullShare} f)
    ∗ reached ER (dmaCell c rsR 0 27) 0 ∗ reached ER (dmaCell c rsR 1 27) 0
    ∗ reached ER (dmaCell c agR 0 27) 0 ∗ reached ER (dmaCell c agR 1 27) 0) := pay_bar_payer m c 5
theorem pay_bar_payer_6 (c : Dev nD) : (sched (F := F) m).payload (barCell (fwd c 6)) 0 (6 : Fin 32) =
    iprop((∃ f, (slot 0 26).view.loc (c : Thread nD τ) ↦[(slot 0 26).view.set]{fullShare} f)
    ∗ (∃ f, (slot 1 26).view.loc (c : Thread nD τ) ↦[(slot 1 26).view.set]{fullShare} f)
    ∗ (∃ f, (chunk outM (fwd c 6) 0).view.loc (c : Thread nD τ) ↦[(chunk outM (fwd c 6) 0).view.set]{fullShare} f)
    ∗ (∃ f, (chunk outM (fwd c 6) 1).view.loc (c : Thread nD τ) ↦[(chunk outM (fwd c 6) 1).view.set]{fullShare} f)
    ∗ reached ER (dmaCell c rsR 0 26) 0 ∗ reached ER (dmaCell c rsR 1 26) 0
    ∗ reached ER (dmaCell c agR 0 26) 0 ∗ reached ER (dmaCell c agR 1 26) 0) := pay_bar_payer m c 6
theorem pay_bar_payer_7 (c : Dev nD) : (sched (F := F) m).payload (barCell (fwd c 7)) 0 (7 : Fin 32) =
    iprop((∃ f, (slot 0 25).view.loc (c : Thread nD τ) ↦[(slot 0 25).view.set]{fullShare} f)
    ∗ (∃ f, (slot 1 25).view.loc (c : Thread nD τ) ↦[(slot 1 25).view.set]{fullShare} f)
    ∗ (∃ f, (chunk outM (fwd c 7) 0).view.loc (c : Thread nD τ) ↦[(chunk outM (fwd c 7) 0).view.set]{fullShare} f)
    ∗ (∃ f, (chunk outM (fwd c 7) 1).view.loc (c : Thread nD τ) ↦[(chunk outM (fwd c 7) 1).view.set]{fullShare} f)
    ∗ reached ER (dmaCell c rsR 0 25) 0 ∗ reached ER (dmaCell c rsR 1 25) 0
    ∗ reached ER (dmaCell c agR 0 25) 0 ∗ reached ER (dmaCell c agR 1 25) 0) := pay_bar_payer m c 7
theorem pay_bar_payer_8 (c : Dev nD) : (sched (F := F) m).payload (barCell (fwd c 8)) 0 (8 : Fin 32) =
    iprop((∃ f, (slot 0 24).view.loc (c : Thread nD τ) ↦[(slot 0 24).view.set]{fullShare} f)
    ∗ (∃ f, (slot 1 24).view.loc (c : Thread nD τ) ↦[(slot 1 24).view.set]{fullShare} f)
    ∗ (∃ f, (chunk outM (fwd c 8) 0).view.loc (c : Thread nD τ) ↦[(chunk outM (fwd c 8) 0).view.set]{fullShare} f)
    ∗ (∃ f, (chunk outM (fwd c 8) 1).view.loc (c : Thread nD τ) ↦[(chunk outM (fwd c 8) 1).view.set]{fullShare} f)
    ∗ reached ER (dmaCell c rsR 0 24) 0 ∗ reached ER (dmaCell c rsR 1 24) 0
    ∗ reached ER (dmaCell c agR 0 24) 0 ∗ reached ER (dmaCell c agR 1 24) 0) := pay_bar_payer m c 8
theorem pay_bar_payer_9 (c : Dev nD) : (sched (F := F) m).payload (barCell (fwd c 9)) 0 (9 : Fin 32) =
    iprop((∃ f, (slot 0 23).view.loc (c : Thread nD τ) ↦[(slot 0 23).view.set]{fullShare} f)
    ∗ (∃ f, (slot 1 23).view.loc (c : Thread nD τ) ↦[(slot 1 23).view.set]{fullShare} f)
    ∗ (∃ f, (chunk outM (fwd c 9) 0).view.loc (c : Thread nD τ) ↦[(chunk outM (fwd c 9) 0).view.set]{fullShare} f)
    ∗ (∃ f, (chunk outM (fwd c 9) 1).view.loc (c : Thread nD τ) ↦[(chunk outM (fwd c 9) 1).view.set]{fullShare} f)
    ∗ reached ER (dmaCell c rsR 0 23) 0 ∗ reached ER (dmaCell c rsR 1 23) 0
    ∗ reached ER (dmaCell c agR 0 23) 0 ∗ reached ER (dmaCell c agR 1 23) 0) := pay_bar_payer m c 9
theorem pay_bar_payer_10 (c : Dev nD) : (sched (F := F) m).payload (barCell (fwd c 10)) 0 (10 : Fin 32) =
    iprop((∃ f, (slot 0 22).view.loc (c : Thread nD τ) ↦[(slot 0 22).view.set]{fullShare} f)
    ∗ (∃ f, (slot 1 22).view.loc (c : Thread nD τ) ↦[(slot 1 22).view.set]{fullShare} f)
    ∗ (∃ f, (chunk outM (fwd c 10) 0).view.loc (c : Thread nD τ) ↦[(chunk outM (fwd c 10) 0).view.set]{fullShare} f)
    ∗ (∃ f, (chunk outM (fwd c 10) 1).view.loc (c : Thread nD τ) ↦[(chunk outM (fwd c 10) 1).view.set]{fullShare} f)
    ∗ reached ER (dmaCell c rsR 0 22) 0 ∗ reached ER (dmaCell c rsR 1 22) 0
    ∗ reached ER (dmaCell c agR 0 22) 0 ∗ reached ER (dmaCell c agR 1 22) 0) := pay_bar_payer m c 10
theorem pay_bar_payer_11 (c : Dev nD) : (sched (F := F) m).payload (barCell (fwd c 11)) 0 (11 : Fin 32) =
    iprop((∃ f, (slot 0 21).view.loc (c : Thread nD τ) ↦[(slot 0 21).view.set]{fullShare} f)
    ∗ (∃ f, (slot 1 21).view.loc (c : Thread nD τ) ↦[(slot 1 21).view.set]{fullShare} f)
    ∗ (∃ f, (chunk outM (fwd c 11) 0).view.loc (c : Thread nD τ) ↦[(chunk outM (fwd c 11) 0).view.set]{fullShare} f)
    ∗ (∃ f, (chunk outM (fwd c 11) 1).view.loc (c : Thread nD τ) ↦[(chunk outM (fwd c 11) 1).view.set]{fullShare} f)
    ∗ reached ER (dmaCell c rsR 0 21) 0 ∗ reached ER (dmaCell c rsR 1 21) 0
    ∗ reached ER (dmaCell c agR 0 21) 0 ∗ reached ER (dmaCell c agR 1 21) 0) := pay_bar_payer m c 11
theorem pay_bar_payer_12 (c : Dev nD) : (sched (F := F) m).payload (barCell (fwd c 12)) 0 (12 : Fin 32) =
    iprop((∃ f, (slot 0 20).view.loc (c : Thread nD τ) ↦[(slot 0 20).view.set]{fullShare} f)
    ∗ (∃ f, (slot 1 20).view.loc (c : Thread nD τ) ↦[(slot 1 20).view.set]{fullShare} f)
    ∗ (∃ f, (chunk outM (fwd c 12) 0).view.loc (c : Thread nD τ) ↦[(chunk outM (fwd c 12) 0).view.set]{fullShare} f)
    ∗ (∃ f, (chunk outM (fwd c 12) 1).view.loc (c : Thread nD τ) ↦[(chunk outM (fwd c 12) 1).view.set]{fullShare} f)
    ∗ reached ER (dmaCell c rsR 0 20) 0 ∗ reached ER (dmaCell c rsR 1 20) 0
    ∗ reached ER (dmaCell c agR 0 20) 0 ∗ reached ER (dmaCell c agR 1 20) 0) := pay_bar_payer m c 12
theorem pay_bar_payer_13 (c : Dev nD) : (sched (F := F) m).payload (barCell (fwd c 13)) 0 (13 : Fin 32) =
    iprop((∃ f, (slot 0 19).view.loc (c : Thread nD τ) ↦[(slot 0 19).view.set]{fullShare} f)
    ∗ (∃ f, (slot 1 19).view.loc (c : Thread nD τ) ↦[(slot 1 19).view.set]{fullShare} f)
    ∗ (∃ f, (chunk outM (fwd c 13) 0).view.loc (c : Thread nD τ) ↦[(chunk outM (fwd c 13) 0).view.set]{fullShare} f)
    ∗ (∃ f, (chunk outM (fwd c 13) 1).view.loc (c : Thread nD τ) ↦[(chunk outM (fwd c 13) 1).view.set]{fullShare} f)
    ∗ reached ER (dmaCell c rsR 0 19) 0 ∗ reached ER (dmaCell c rsR 1 19) 0
    ∗ reached ER (dmaCell c agR 0 19) 0 ∗ reached ER (dmaCell c agR 1 19) 0) := pay_bar_payer m c 13
theorem pay_bar_payer_14 (c : Dev nD) : (sched (F := F) m).payload (barCell (fwd c 14)) 0 (14 : Fin 32) =
    iprop((∃ f, (slot 0 18).view.loc (c : Thread nD τ) ↦[(slot 0 18).view.set]{fullShare} f)
    ∗ (∃ f, (slot 1 18).view.loc (c : Thread nD τ) ↦[(slot 1 18).view.set]{fullShare} f)
    ∗ (∃ f, (chunk outM (fwd c 14) 0).view.loc (c : Thread nD τ) ↦[(chunk outM (fwd c 14) 0).view.set]{fullShare} f)
    ∗ (∃ f, (chunk outM (fwd c 14) 1).view.loc (c : Thread nD τ) ↦[(chunk outM (fwd c 14) 1).view.set]{fullShare} f)
    ∗ reached ER (dmaCell c rsR 0 18) 0 ∗ reached ER (dmaCell c rsR 1 18) 0
    ∗ reached ER (dmaCell c agR 0 18) 0 ∗ reached ER (dmaCell c agR 1 18) 0) := pay_bar_payer m c 14
theorem pay_bar_payer_15 (c : Dev nD) : (sched (F := F) m).payload (barCell (fwd c 15)) 0 (15 : Fin 32) =
    iprop((∃ f, (slot 0 17).view.loc (c : Thread nD τ) ↦[(slot 0 17).view.set]{fullShare} f)
    ∗ (∃ f, (slot 1 17).view.loc (c : Thread nD τ) ↦[(slot 1 17).view.set]{fullShare} f)
    ∗ (∃ f, (chunk outM (fwd c 15) 0).view.loc (c : Thread nD τ) ↦[(chunk outM (fwd c 15) 0).view.set]{fullShare} f)
    ∗ (∃ f, (chunk outM (fwd c 15) 1).view.loc (c : Thread nD τ) ↦[(chunk outM (fwd c 15) 1).view.set]{fullShare} f)
    ∗ reached ER (dmaCell c rsR 0 17) 0 ∗ reached ER (dmaCell c rsR 1 17) 0
    ∗ reached ER (dmaCell c agR 0 17) 0 ∗ reached ER (dmaCell c agR 1 17) 0) := pay_bar_payer m c 15
theorem pay_bar_payer_16 (c : Dev nD) : (sched (F := F) m).payload (barCell (fwd c 16)) 0 (16 : Fin 32) =
    iprop((∃ f, (slot 0 16).view.loc (c : Thread nD τ) ↦[(slot 0 16).view.set]{fullShare} f)
    ∗ (∃ f, (slot 1 16).view.loc (c : Thread nD τ) ↦[(slot 1 16).view.set]{fullShare} f)
    ∗ (∃ f, (chunk outM (fwd c 16) 0).view.loc (c : Thread nD τ) ↦[(chunk outM (fwd c 16) 0).view.set]{fullShare} f)
    ∗ (∃ f, (chunk outM (fwd c 16) 1).view.loc (c : Thread nD τ) ↦[(chunk outM (fwd c 16) 1).view.set]{fullShare} f)
    ∗ reached ER (dmaCell c rsR 0 16) 0 ∗ reached ER (dmaCell c rsR 1 16) 0
    ∗ reached ER (dmaCell c agR 0 16) 0 ∗ reached ER (dmaCell c agR 1 16) 0) := pay_bar_payer m c 16
theorem pay_bar_payer_17 (c : Dev nD) : (sched (F := F) m).payload (barCell (fwd c 17)) 0 (17 : Fin 32) =
    iprop((∃ f, (slot 0 15).view.loc (c : Thread nD τ) ↦[(slot 0 15).view.set]{fullShare} f)
    ∗ (∃ f, (slot 1 15).view.loc (c : Thread nD τ) ↦[(slot 1 15).view.set]{fullShare} f)
    ∗ (∃ f, (chunk outM (fwd c 17) 0).view.loc (c : Thread nD τ) ↦[(chunk outM (fwd c 17) 0).view.set]{fullShare} f)
    ∗ (∃ f, (chunk outM (fwd c 17) 1).view.loc (c : Thread nD τ) ↦[(chunk outM (fwd c 17) 1).view.set]{fullShare} f)
    ∗ reached ER (dmaCell c rsR 0 15) 0 ∗ reached ER (dmaCell c rsR 1 15) 0
    ∗ reached ER (dmaCell c agR 0 15) 0 ∗ reached ER (dmaCell c agR 1 15) 0) := pay_bar_payer m c 17
theorem pay_bar_payer_18 (c : Dev nD) : (sched (F := F) m).payload (barCell (fwd c 18)) 0 (18 : Fin 32) =
    iprop((∃ f, (slot 0 14).view.loc (c : Thread nD τ) ↦[(slot 0 14).view.set]{fullShare} f)
    ∗ (∃ f, (slot 1 14).view.loc (c : Thread nD τ) ↦[(slot 1 14).view.set]{fullShare} f)
    ∗ (∃ f, (chunk outM (fwd c 18) 0).view.loc (c : Thread nD τ) ↦[(chunk outM (fwd c 18) 0).view.set]{fullShare} f)
    ∗ (∃ f, (chunk outM (fwd c 18) 1).view.loc (c : Thread nD τ) ↦[(chunk outM (fwd c 18) 1).view.set]{fullShare} f)
    ∗ reached ER (dmaCell c rsR 0 14) 0 ∗ reached ER (dmaCell c rsR 1 14) 0
    ∗ reached ER (dmaCell c agR 0 14) 0 ∗ reached ER (dmaCell c agR 1 14) 0) := pay_bar_payer m c 18
theorem pay_bar_payer_19 (c : Dev nD) : (sched (F := F) m).payload (barCell (fwd c 19)) 0 (19 : Fin 32) =
    iprop((∃ f, (slot 0 13).view.loc (c : Thread nD τ) ↦[(slot 0 13).view.set]{fullShare} f)
    ∗ (∃ f, (slot 1 13).view.loc (c : Thread nD τ) ↦[(slot 1 13).view.set]{fullShare} f)
    ∗ (∃ f, (chunk outM (fwd c 19) 0).view.loc (c : Thread nD τ) ↦[(chunk outM (fwd c 19) 0).view.set]{fullShare} f)
    ∗ (∃ f, (chunk outM (fwd c 19) 1).view.loc (c : Thread nD τ) ↦[(chunk outM (fwd c 19) 1).view.set]{fullShare} f)
    ∗ reached ER (dmaCell c rsR 0 13) 0 ∗ reached ER (dmaCell c rsR 1 13) 0
    ∗ reached ER (dmaCell c agR 0 13) 0 ∗ reached ER (dmaCell c agR 1 13) 0) := pay_bar_payer m c 19
theorem pay_bar_payer_20 (c : Dev nD) : (sched (F := F) m).payload (barCell (fwd c 20)) 0 (20 : Fin 32) =
    iprop((∃ f, (slot 0 12).view.loc (c : Thread nD τ) ↦[(slot 0 12).view.set]{fullShare} f)
    ∗ (∃ f, (slot 1 12).view.loc (c : Thread nD τ) ↦[(slot 1 12).view.set]{fullShare} f)
    ∗ (∃ f, (chunk outM (fwd c 20) 0).view.loc (c : Thread nD τ) ↦[(chunk outM (fwd c 20) 0).view.set]{fullShare} f)
    ∗ (∃ f, (chunk outM (fwd c 20) 1).view.loc (c : Thread nD τ) ↦[(chunk outM (fwd c 20) 1).view.set]{fullShare} f)
    ∗ reached ER (dmaCell c rsR 0 12) 0 ∗ reached ER (dmaCell c rsR 1 12) 0
    ∗ reached ER (dmaCell c agR 0 12) 0 ∗ reached ER (dmaCell c agR 1 12) 0) := pay_bar_payer m c 20
theorem pay_bar_payer_21 (c : Dev nD) : (sched (F := F) m).payload (barCell (fwd c 21)) 0 (21 : Fin 32) =
    iprop((∃ f, (slot 0 11).view.loc (c : Thread nD τ) ↦[(slot 0 11).view.set]{fullShare} f)
    ∗ (∃ f, (slot 1 11).view.loc (c : Thread nD τ) ↦[(slot 1 11).view.set]{fullShare} f)
    ∗ (∃ f, (chunk outM (fwd c 21) 0).view.loc (c : Thread nD τ) ↦[(chunk outM (fwd c 21) 0).view.set]{fullShare} f)
    ∗ (∃ f, (chunk outM (fwd c 21) 1).view.loc (c : Thread nD τ) ↦[(chunk outM (fwd c 21) 1).view.set]{fullShare} f)
    ∗ reached ER (dmaCell c rsR 0 11) 0 ∗ reached ER (dmaCell c rsR 1 11) 0
    ∗ reached ER (dmaCell c agR 0 11) 0 ∗ reached ER (dmaCell c agR 1 11) 0) := pay_bar_payer m c 21
theorem pay_bar_payer_22 (c : Dev nD) : (sched (F := F) m).payload (barCell (fwd c 22)) 0 (22 : Fin 32) =
    iprop((∃ f, (slot 0 10).view.loc (c : Thread nD τ) ↦[(slot 0 10).view.set]{fullShare} f)
    ∗ (∃ f, (slot 1 10).view.loc (c : Thread nD τ) ↦[(slot 1 10).view.set]{fullShare} f)
    ∗ (∃ f, (chunk outM (fwd c 22) 0).view.loc (c : Thread nD τ) ↦[(chunk outM (fwd c 22) 0).view.set]{fullShare} f)
    ∗ (∃ f, (chunk outM (fwd c 22) 1).view.loc (c : Thread nD τ) ↦[(chunk outM (fwd c 22) 1).view.set]{fullShare} f)
    ∗ reached ER (dmaCell c rsR 0 10) 0 ∗ reached ER (dmaCell c rsR 1 10) 0
    ∗ reached ER (dmaCell c agR 0 10) 0 ∗ reached ER (dmaCell c agR 1 10) 0) := pay_bar_payer m c 22
theorem pay_bar_payer_23 (c : Dev nD) : (sched (F := F) m).payload (barCell (fwd c 23)) 0 (23 : Fin 32) =
    iprop((∃ f, (slot 0 9).view.loc (c : Thread nD τ) ↦[(slot 0 9).view.set]{fullShare} f)
    ∗ (∃ f, (slot 1 9).view.loc (c : Thread nD τ) ↦[(slot 1 9).view.set]{fullShare} f)
    ∗ (∃ f, (chunk outM (fwd c 23) 0).view.loc (c : Thread nD τ) ↦[(chunk outM (fwd c 23) 0).view.set]{fullShare} f)
    ∗ (∃ f, (chunk outM (fwd c 23) 1).view.loc (c : Thread nD τ) ↦[(chunk outM (fwd c 23) 1).view.set]{fullShare} f)
    ∗ reached ER (dmaCell c rsR 0 9) 0 ∗ reached ER (dmaCell c rsR 1 9) 0
    ∗ reached ER (dmaCell c agR 0 9) 0 ∗ reached ER (dmaCell c agR 1 9) 0) := pay_bar_payer m c 23
theorem pay_bar_payer_24 (c : Dev nD) : (sched (F := F) m).payload (barCell (fwd c 24)) 0 (24 : Fin 32) =
    iprop((∃ f, (slot 0 8).view.loc (c : Thread nD τ) ↦[(slot 0 8).view.set]{fullShare} f)
    ∗ (∃ f, (slot 1 8).view.loc (c : Thread nD τ) ↦[(slot 1 8).view.set]{fullShare} f)
    ∗ (∃ f, (chunk outM (fwd c 24) 0).view.loc (c : Thread nD τ) ↦[(chunk outM (fwd c 24) 0).view.set]{fullShare} f)
    ∗ (∃ f, (chunk outM (fwd c 24) 1).view.loc (c : Thread nD τ) ↦[(chunk outM (fwd c 24) 1).view.set]{fullShare} f)
    ∗ reached ER (dmaCell c rsR 0 8) 0 ∗ reached ER (dmaCell c rsR 1 8) 0
    ∗ reached ER (dmaCell c agR 0 8) 0 ∗ reached ER (dmaCell c agR 1 8) 0) := pay_bar_payer m c 24
theorem pay_bar_payer_25 (c : Dev nD) : (sched (F := F) m).payload (barCell (fwd c 25)) 0 (25 : Fin 32) =
    iprop((∃ f, (slot 0 7).view.loc (c : Thread nD τ) ↦[(slot 0 7).view.set]{fullShare} f)
    ∗ (∃ f, (slot 1 7).view.loc (c : Thread nD τ) ↦[(slot 1 7).view.set]{fullShare} f)
    ∗ (∃ f, (chunk outM (fwd c 25) 0).view.loc (c : Thread nD τ) ↦[(chunk outM (fwd c 25) 0).view.set]{fullShare} f)
    ∗ (∃ f, (chunk outM (fwd c 25) 1).view.loc (c : Thread nD τ) ↦[(chunk outM (fwd c 25) 1).view.set]{fullShare} f)
    ∗ reached ER (dmaCell c rsR 0 7) 0 ∗ reached ER (dmaCell c rsR 1 7) 0
    ∗ reached ER (dmaCell c agR 0 7) 0 ∗ reached ER (dmaCell c agR 1 7) 0) := pay_bar_payer m c 25
theorem pay_bar_payer_26 (c : Dev nD) : (sched (F := F) m).payload (barCell (fwd c 26)) 0 (26 : Fin 32) =
    iprop((∃ f, (slot 0 6).view.loc (c : Thread nD τ) ↦[(slot 0 6).view.set]{fullShare} f)
    ∗ (∃ f, (slot 1 6).view.loc (c : Thread nD τ) ↦[(slot 1 6).view.set]{fullShare} f)
    ∗ (∃ f, (chunk outM (fwd c 26) 0).view.loc (c : Thread nD τ) ↦[(chunk outM (fwd c 26) 0).view.set]{fullShare} f)
    ∗ (∃ f, (chunk outM (fwd c 26) 1).view.loc (c : Thread nD τ) ↦[(chunk outM (fwd c 26) 1).view.set]{fullShare} f)
    ∗ reached ER (dmaCell c rsR 0 6) 0 ∗ reached ER (dmaCell c rsR 1 6) 0
    ∗ reached ER (dmaCell c agR 0 6) 0 ∗ reached ER (dmaCell c agR 1 6) 0) := pay_bar_payer m c 26
theorem pay_bar_payer_27 (c : Dev nD) : (sched (F := F) m).payload (barCell (fwd c 27)) 0 (27 : Fin 32) =
    iprop((∃ f, (slot 0 5).view.loc (c : Thread nD τ) ↦[(slot 0 5).view.set]{fullShare} f)
    ∗ (∃ f, (slot 1 5).view.loc (c : Thread nD τ) ↦[(slot 1 5).view.set]{fullShare} f)
    ∗ (∃ f, (chunk outM (fwd c 27) 0).view.loc (c : Thread nD τ) ↦[(chunk outM (fwd c 27) 0).view.set]{fullShare} f)
    ∗ (∃ f, (chunk outM (fwd c 27) 1).view.loc (c : Thread nD τ) ↦[(chunk outM (fwd c 27) 1).view.set]{fullShare} f)
    ∗ reached ER (dmaCell c rsR 0 5) 0 ∗ reached ER (dmaCell c rsR 1 5) 0
    ∗ reached ER (dmaCell c agR 0 5) 0 ∗ reached ER (dmaCell c agR 1 5) 0) := pay_bar_payer m c 27
theorem pay_bar_payer_28 (c : Dev nD) : (sched (F := F) m).payload (barCell (fwd c 28)) 0 (28 : Fin 32) =
    iprop((∃ f, (slot 0 4).view.loc (c : Thread nD τ) ↦[(slot 0 4).view.set]{fullShare} f)
    ∗ (∃ f, (slot 1 4).view.loc (c : Thread nD τ) ↦[(slot 1 4).view.set]{fullShare} f)
    ∗ (∃ f, (chunk outM (fwd c 28) 0).view.loc (c : Thread nD τ) ↦[(chunk outM (fwd c 28) 0).view.set]{fullShare} f)
    ∗ (∃ f, (chunk outM (fwd c 28) 1).view.loc (c : Thread nD τ) ↦[(chunk outM (fwd c 28) 1).view.set]{fullShare} f)
    ∗ reached ER (dmaCell c rsR 0 4) 0 ∗ reached ER (dmaCell c rsR 1 4) 0
    ∗ reached ER (dmaCell c agR 0 4) 0 ∗ reached ER (dmaCell c agR 1 4) 0) := pay_bar_payer m c 28
theorem pay_bar_payer_29 (c : Dev nD) : (sched (F := F) m).payload (barCell (fwd c 29)) 0 (29 : Fin 32) =
    iprop((∃ f, (slot 0 3).view.loc (c : Thread nD τ) ↦[(slot 0 3).view.set]{fullShare} f)
    ∗ (∃ f, (slot 1 3).view.loc (c : Thread nD τ) ↦[(slot 1 3).view.set]{fullShare} f)
    ∗ (∃ f, (chunk outM (fwd c 29) 0).view.loc (c : Thread nD τ) ↦[(chunk outM (fwd c 29) 0).view.set]{fullShare} f)
    ∗ (∃ f, (chunk outM (fwd c 29) 1).view.loc (c : Thread nD τ) ↦[(chunk outM (fwd c 29) 1).view.set]{fullShare} f)
    ∗ reached ER (dmaCell c rsR 0 3) 0 ∗ reached ER (dmaCell c rsR 1 3) 0
    ∗ reached ER (dmaCell c agR 0 3) 0 ∗ reached ER (dmaCell c agR 1 3) 0) := pay_bar_payer m c 29
theorem pay_bar_payer_30 (c : Dev nD) : (sched (F := F) m).payload (barCell (fwd c 30)) 0 (30 : Fin 32) =
    iprop((∃ f, (slot 0 2).view.loc (c : Thread nD τ) ↦[(slot 0 2).view.set]{fullShare} f)
    ∗ (∃ f, (slot 1 2).view.loc (c : Thread nD τ) ↦[(slot 1 2).view.set]{fullShare} f)
    ∗ (∃ f, (chunk outM (fwd c 30) 0).view.loc (c : Thread nD τ) ↦[(chunk outM (fwd c 30) 0).view.set]{fullShare} f)
    ∗ (∃ f, (chunk outM (fwd c 30) 1).view.loc (c : Thread nD τ) ↦[(chunk outM (fwd c 30) 1).view.set]{fullShare} f)
    ∗ reached ER (dmaCell c rsR 0 2) 0 ∗ reached ER (dmaCell c rsR 1 2) 0
    ∗ reached ER (dmaCell c agR 0 2) 0 ∗ reached ER (dmaCell c agR 1 2) 0) := pay_bar_payer m c 30
theorem pay_bar_payer_31 (c : Dev nD) : (sched (F := F) m).payload (barCell (fwd c 31)) 0 (31 : Fin 32) =
    iprop((∃ f, (slot 0 1).view.loc (c : Thread nD τ) ↦[(slot 0 1).view.set]{fullShare} f)
    ∗ (∃ f, (slot 1 1).view.loc (c : Thread nD τ) ↦[(slot 1 1).view.set]{fullShare} f)
    ∗ (∃ f, (chunk outM (fwd c 31) 0).view.loc (c : Thread nD τ) ↦[(chunk outM (fwd c 31) 0).view.set]{fullShare} f)
    ∗ (∃ f, (chunk outM (fwd c 31) 1).view.loc (c : Thread nD τ) ↦[(chunk outM (fwd c 31) 1).view.set]{fullShare} f)
    ∗ reached ER (dmaCell c rsR 0 1) 0 ∗ reached ER (dmaCell c rsR 1 1) 0
    ∗ reached ER (dmaCell c agR 0 1) 0 ∗ reached ER (dmaCell c agR 1 1) 0) := pay_bar_payer m c 31

end Cert.Kernel.AllReduce

end
-- ==== Proof.Word.BodySignals.lean ====
/-
  The entry handshake: the device's 31 signals to its peers' barrier cells, each handing the peer the slot and the gather rows that peer will fill.
  One statement per printed part of the kernel body, over the resources that part touches and nothing else.
-/
import proofs.«900438_g7700000000000439_dist_gemm_ar_m1024_k1024_n1024_f32_gelu_v7x_i32_1_alg».proof.Proof.Word.BodyTables
noncomputable section
namespace Cert.Kernel.AllReduce
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma duties_bar amount_bar pay_bar_payer_1 pay_bar_payer_2 pay_bar_payer_3 pay_bar_payer_4 pay_bar_payer_5 in
set_option maxHeartbeats 4000000 in
theorem part1_spec (c : Dev nD)  (fo : Buf (Elt F) ((c : Thread nD τ).loc cc0_scratch1)) (fb : Buf (Elt F) ((c : Thread nD τ).loc cc0_scratch2)) (O : CellTallies nD τ sig Unit) (W : Waits sig Unit) (Q : (Σ' (d0 : Dev nD) (v2 : BitVec 32) (v3 : Sems sig S_) (v24 : BitVec 32), BitVec 32) → sProp 𝕄) :
    iprop((cellInv ER (sched m) (K (barCell (fwd c 1))) (barCell (fwd c 1)) ∗ dutyTok ER (barCell (fwd c 1)) 0 (1 : Fin 32) ∗ reached ER (barCell (fwd c 1)) 0
        ∗ reached ER (dmaCell c rsR 0 31) 0 ∗ reached ER (dmaCell c rsR 1 31) 0 ∗ reached ER (dmaCell c agR 0 31) 0 ∗ reached ER (dmaCell c agR 1 31) 0)
      ∗ ((slot 0 31).view.loc (c : Thread nD τ) ↦[(slot 0 31).view.set]{fullShare} fb)
      ∗ ((slot 1 31).view.loc (c : Thread nD τ) ↦[(slot 1 31).view.set]{fullShare} fb)
      ∗ ((chunk outM (fwd c 1) 0).view.loc (c : Thread nD τ) ↦[(chunk outM (fwd c 1) 0).view.set]{fullShare} fo)
      ∗ ((chunk outM (fwd c 1) 1).view.loc (c : Thread nD τ) ↦[(chunk outM (fwd c 1) 1).view.set]{fullShare} fo)
      ∗ (cellInv ER (sched m) (K (barCell (fwd c 2))) (barCell (fwd c 2)) ∗ dutyTok ER (barCell (fwd c 2)) 0 (2 : Fin 32) ∗ reached ER (barCell (fwd c 2)) 0
        ∗ reached ER (dmaCell c rsR 0 30) 0 ∗ reached ER (dmaCell c rsR 1 30) 0 ∗ reached ER (dmaCell c agR 0 30) 0 ∗ reached ER (dmaCell c agR 1 30) 0)
      ∗ ((slot 0 30).view.loc (c : Thread nD τ) ↦[(slot 0 30).view.set]{fullShare} fb)
      ∗ ((slot 1 30).view.loc (c : Thread nD τ) ↦[(slot 1 30).view.set]{fullShare} fb)
      ∗ ((chunk outM (fwd c 2) 0).view.loc (c : Thread nD τ) ↦[(chunk outM (fwd c 2) 0).view.set]{fullShare} fo)
      ∗ ((chunk outM (fwd c 2) 1).view.loc (c : Thread nD τ) ↦[(chunk outM (fwd c 2) 1).view.set]{fullShare} fo)
      ∗ (cellInv ER (sched m) (K (barCell (fwd c 3))) (barCell (fwd c 3)) ∗ dutyTok ER (barCell (fwd c 3)) 0 (3 : Fin 32) ∗ reached ER (barCell (fwd c 3)) 0
        ∗ reached ER (dmaCell c rsR 0 29) 0 ∗ reached ER (dmaCell c rsR 1 29) 0 ∗ reached ER (dmaCell c agR 0 29) 0 ∗ reached ER (dmaCell c agR 1 29) 0)
      ∗ ((slot 0 29).view.loc (c : Thread nD τ) ↦[(slot 0 29).view.set]{fullShare} fb)
      ∗ ((slot 1 29).view.loc (c : Thread nD τ) ↦[(slot 1 29).view.set]{fullShare} fb)
      ∗ ((chunk outM (fwd c 3) 0).view.loc (c : Thread nD τ) ↦[(chunk outM (fwd c 3) 0).view.set]{fullShare} fo)
      ∗ ((chunk outM (fwd c 3) 1).view.loc (c : Thread nD τ) ↦[(chunk outM (fwd c 3) 1).view.set]{fullShare} fo)
      ∗ (cellInv ER (sched m) (K (barCell (fwd c 4))) (barCell (fwd c 4)) ∗ dutyTok ER (barCell (fwd c 4)) 0 (4 : Fin 32) ∗ reached ER (barCell (fwd c 4)) 0
        ∗ reached ER (dmaCell c rsR 0 28) 0 ∗ reached ER (dmaCell c rsR 1 28) 0 ∗ reached ER (dmaCell c agR 0 28) 0 ∗ reached ER (dmaCell c agR 1 28) 0)
      ∗ ((slot 0 28).view.loc (c : Thread nD τ) ↦[(slot 0 28).view.set]{fullShare} fb)
      ∗ ((slot 1 28).view.loc (c : Thread nD τ) ↦[(slot 1 28).view.set]{fullShare} fb)
      ∗ ((chunk outM (fwd c 4) 0).view.loc (c : Thread nD τ) ↦[(chunk outM (fwd c 4) 0).view.set]{fullShare} fo)
      ∗ ((chunk outM (fwd c 4) 1).view.loc (c : Thread nD τ) ↦[(chunk outM (fwd c 4) 1).view.set]{fullShare} fo)
      ∗ (cellInv ER (sched m) (K (barCell (fwd c 5))) (barCell (fwd c 5)) ∗ dutyTok ER (barCell (fwd c 5)) 0 (5 : Fin 32) ∗ reached ER (barCell (fwd c 5)) 0
        ∗ reached ER (dmaCell c rsR 0 27) 0 ∗ reached ER (dmaCell c rsR 1 27) 0 ∗ reached ER (dmaCell c agR 0 27) 0 ∗ reached ER (dmaCell c agR 1 27) 0)
      ∗ ((slot 0 27).view.loc (c : Thread nD τ) ↦[(slot 0 27).view.set]{fullShare} fb)
      ∗ ((slot 1 27).view.loc (c : Thread nD τ) ↦[(slot 1 27).view.set]{fullShare} fb)
      ∗ ((chunk outM (fwd c 5) 0).view.loc (c : Thread nD τ) ↦[(chunk outM (fwd c 5) 0).view.set]{fullShare} fo)
      ∗ ((chunk outM (fwd c 5) 1).view.loc (c : Thread nD τ) ↦[(chunk outM (fwd c 5) 1).view.set]{fullShare} fo)
      ∗ owes (c : Thread nD τ) (O + tallyAt (barCell (fwd c 5)) () 1 + tallyAt (barCell (fwd c 4)) () 1 + tallyAt (barCell (fwd c 3)) () 1 + tallyAt (barCell (fwd c 2)) () 1 + tallyAt (barCell (fwd c 1)) () 1) W
      ∗ (∀ (v2 v24 x : BitVec 32), (owes (c : Thread nD τ) (O) (W)) -∗ Q ⟨c, v2, SemArray.scalar (sig.barrier 0 rfl), v24, x⟩))
      ⊢ wp frame (wpE (defs₀ (F := F)) 𝒱₀ c none) Set.univ (k0_part1 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q := by
  iintro ⟨⟨#IB1, TB1, #RB1, #Rr0_1, #Rr1_1, #Ra0_1, #Ra1_1⟩, S0_1, S1_1, Og0_1, Og1_1, ⟨#IB2, TB2, #RB2, #Rr0_2, #Rr1_2, #Ra0_2, #Ra1_2⟩, S0_2, S1_2, Og0_2, Og1_2, ⟨#IB3, TB3, #RB3, #Rr0_3, #Rr1_3, #Ra0_3, #Ra1_3⟩, S0_3, S1_3, Og0_3, Og1_3, ⟨#IB4, TB4, #RB4, #Rr0_4, #Rr1_4, #Ra0_4, #Ra1_4⟩, S0_4, S1_4, Og0_4, Og1_4, ⟨#IB5, TB5, #RB5, #Rr0_5, #Rr1_5, #Ra0_5, #Ra1_5⟩, S0_5, S1_5, Og0_5, Og1_5, HO, Hk⟩
  sl_exec_parts
  sl_step
  iapply Hk

  iexact HO

attribute [local sl_rounds] duties_dma amount_dma expect_dma duties_bar amount_bar pay_bar_payer_6 pay_bar_payer_7 pay_bar_payer_8 pay_bar_payer_9 pay_bar_payer_10 pay_bar_payer_11 in
set_option maxHeartbeats 4000000 in
theorem part2_spec (c : Dev nD) (v2 : BitVec 32) (v24 : BitVec 32) (c32_i32_20 : BitVec 32) (fo : Buf (Elt F) ((c : Thread nD τ).loc cc0_scratch1)) (fb : Buf (Elt F) ((c : Thread nD τ).loc cc0_scratch2)) (O : CellTallies nD τ sig Unit) (W : Waits sig Unit) (Q : (Σ' (v48 : BitVec 32), BitVec 32) → sProp 𝕄) :
    iprop((cellInv ER (sched m) (K (barCell (fwd c 6))) (barCell (fwd c 6)) ∗ dutyTok ER (barCell (fwd c 6)) 0 (6 : Fin 32) ∗ reached ER (barCell (fwd c 6)) 0
        ∗ reached ER (dmaCell c rsR 0 26) 0 ∗ reached ER (dmaCell c rsR 1 26) 0 ∗ reached ER (dmaCell c agR 0 26) 0 ∗ reached ER (dmaCell c agR 1 26) 0)
      ∗ ((slot 0 26).view.loc (c : Thread nD τ) ↦[(slot 0 26).view.set]{fullShare} fb)
      ∗ ((slot 1 26).view.loc (c : Thread nD τ) ↦[(slot 1 26).view.set]{fullShare} fb)
      ∗ ((chunk outM (fwd c 6) 0).view.loc (c : Thread nD τ) ↦[(chunk outM (fwd c 6) 0).view.set]{fullShare} fo)
      ∗ ((chunk outM (fwd c 6) 1).view.loc (c : Thread nD τ) ↦[(chunk outM (fwd c 6) 1).view.set]{fullShare} fo)
      ∗ (cellInv ER (sched m) (K (barCell (fwd c 7))) (barCell (fwd c 7)) ∗ dutyTok ER (barCell (fwd c 7)) 0 (7 : Fin 32) ∗ reached ER (barCell (fwd c 7)) 0
        ∗ reached ER (dmaCell c rsR 0 25) 0 ∗ reached ER (dmaCell c rsR 1 25) 0 ∗ reached ER (dmaCell c agR 0 25) 0 ∗ reached ER (dmaCell c agR 1 25) 0)
      ∗ ((slot 0 25).view.loc (c : Thread nD τ) ↦[(slot 0 25).view.set]{fullShare} fb)
      ∗ ((slot 1 25).view.loc (c : Thread nD τ) ↦[(slot 1 25).view.set]{fullShare} fb)
      ∗ ((chunk outM (fwd c 7) 0).view.loc (c : Thread nD τ) ↦[(chunk outM (fwd c 7) 0).view.set]{fullShare} fo)
      ∗ ((chunk outM (fwd c 7) 1).view.loc (c : Thread nD τ) ↦[(chunk outM (fwd c 7) 1).view.set]{fullShare} fo)
      ∗ (cellInv ER (sched m) (K (barCell (fwd c 8))) (barCell (fwd c 8)) ∗ dutyTok ER (barCell (fwd c 8)) 0 (8 : Fin 32) ∗ reached ER (barCell (fwd c 8)) 0
        ∗ reached ER (dmaCell c rsR 0 24) 0 ∗ reached ER (dmaCell c rsR 1 24) 0 ∗ reached ER (dmaCell c agR 0 24) 0 ∗ reached ER (dmaCell c agR 1 24) 0)
      ∗ ((slot 0 24).view.loc (c : Thread nD τ) ↦[(slot 0 24).view.set]{fullShare} fb)
      ∗ ((slot 1 24).view.loc (c : Thread nD τ) ↦[(slot 1 24).view.set]{fullShare} fb)
      ∗ ((chunk outM (fwd c 8) 0).view.loc (c : Thread nD τ) ↦[(chunk outM (fwd c 8) 0).view.set]{fullShare} fo)
      ∗ ((chunk outM (fwd c 8) 1).view.loc (c : Thread nD τ) ↦[(chunk outM (fwd c 8) 1).view.set]{fullShare} fo)
      ∗ (cellInv ER (sched m) (K (barCell (fwd c 9))) (barCell (fwd c 9)) ∗ dutyTok ER (barCell (fwd c 9)) 0 (9 : Fin 32) ∗ reached ER (barCell (fwd c 9)) 0
        ∗ reached ER (dmaCell c rsR 0 23) 0 ∗ reached ER (dmaCell c rsR 1 23) 0 ∗ reached ER (dmaCell c agR 0 23) 0 ∗ reached ER (dmaCell c agR 1 23) 0)
      ∗ ((slot 0 23).view.loc (c : Thread nD τ) ↦[(slot 0 23).view.set]{fullShare} fb)
      ∗ ((slot 1 23).view.loc (c : Thread nD τ) ↦[(slot 1 23).view.set]{fullShare} fb)
      ∗ ((chunk outM (fwd c 9) 0).view.loc (c : Thread nD τ) ↦[(chunk outM (fwd c 9) 0).view.set]{fullShare} fo)
      ∗ ((chunk outM (fwd c 9) 1).view.loc (c : Thread nD τ) ↦[(chunk outM (fwd c 9) 1).view.set]{fullShare} fo)
      ∗ (cellInv ER (sched m) (K (barCell (fwd c 10))) (barCell (fwd c 10)) ∗ dutyTok ER (barCell (fwd c 10)) 0 (10 : Fin 32) ∗ reached ER (barCell (fwd c 10)) 0
        ∗ reached ER (dmaCell c rsR 0 22) 0 ∗ reached ER (dmaCell c rsR 1 22) 0 ∗ reached ER (dmaCell c agR 0 22) 0 ∗ reached ER (dmaCell c agR 1 22) 0)
      ∗ ((slot 0 22).view.loc (c : Thread nD τ) ↦[(slot 0 22).view.set]{fullShare} fb)
      ∗ ((slot 1 22).view.loc (c : Thread nD τ) ↦[(slot 1 22).view.set]{fullShare} fb)
      ∗ ((chunk outM (fwd c 10) 0).view.loc (c : Thread nD τ) ↦[(chunk outM (fwd c 10) 0).view.set]{fullShare} fo)
      ∗ ((chunk outM (fwd c 10) 1).view.loc (c : Thread nD τ) ↦[(chunk outM (fwd c 10) 1).view.set]{fullShare} fo)
      ∗ (cellInv ER (sched m) (K (barCell (fwd c 11))) (barCell (fwd c 11)) ∗ dutyTok ER (barCell (fwd c 11)) 0 (11 : Fin 32) ∗ reached ER (barCell (fwd c 11)) 0
        ∗ reached ER (dmaCell c rsR 0 21) 0 ∗ reached ER (dmaCell c rsR 1 21) 0 ∗ reached ER (dmaCell c agR 0 21) 0 ∗ reached ER (dmaCell c agR 1 21) 0)
      ∗ ((slot 0 21).view.loc (c : Thread nD τ) ↦[(slot 0 21).view.set]{fullShare} fb)
      ∗ ((slot 1 21).view.loc (c : Thread nD τ) ↦[(slot 1 21).view.set]{fullShare} fb)
      ∗ ((chunk outM (fwd c 11) 0).view.loc (c : Thread nD τ) ↦[(chunk outM (fwd c 11) 0).view.set]{fullShare} fo)
      ∗ ((chunk outM (fwd c 11) 1).view.loc (c : Thread nD τ) ↦[(chunk outM (fwd c 11) 1).view.set]{fullShare} fo)
      ∗ owes (c : Thread nD τ) (O + tallyAt (barCell (fwd c 11)) () 1 + tallyAt (barCell (fwd c 10)) () 1 + tallyAt (barCell (fwd c 9)) () 1 + tallyAt (barCell (fwd c 8)) () 1 + tallyAt (barCell (fwd c 7)) () 1 + tallyAt (barCell (fwd c 6)) () 1) W
      ∗ (∀ r, (owes (c : Thread nD τ) (O) (W)) -∗ Q r))
      ⊢ wp frame (wpE (defs₀ (F := F)) 𝒱₀ c none) Set.univ (k0_part2 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v24 c32_i32_20) Q := by
  iintro ⟨⟨#IB6, TB6, #RB6, #Rr0_6, #Rr1_6, #Ra0_6, #Ra1_6⟩, S0_6, S1_6, Og0_6, Og1_6, ⟨#IB7, TB7, #RB7, #Rr0_7, #Rr1_7, #Ra0_7, #Ra1_7⟩, S0_7, S1_7, Og0_7, Og1_7, ⟨#IB8, TB8, #RB8, #Rr0_8, #Rr1_8, #Ra0_8, #Ra1_8⟩, S0_8, S1_8, Og0_8, Og1_8, ⟨#IB9, TB9, #RB9, #Rr0_9, #Rr1_9, #Ra0_9, #Ra1_9⟩, S0_9, S1_9, Og0_9, Og1_9, ⟨#IB10, TB10, #RB10, #Rr0_10, #Rr1_10, #Ra0_10, #Ra1_10⟩, S0_10, S1_10, Og0_10, Og1_10, ⟨#IB11, TB11, #RB11, #Rr0_11, #Rr1_11, #Ra0_11, #Ra1_11⟩, S0_11, S1_11, Og0_11, Og1_11, HO, Hk⟩
  sl_exec_parts
  sl_step
  iapply Hk

  iexact HO

attribute [local sl_rounds] duties_dma amount_dma expect_dma duties_bar amount_bar pay_bar_payer_12 pay_bar_payer_13 pay_bar_payer_14 pay_bar_payer_15 pay_bar_payer_16 pay_bar_payer_17 in
set_option maxHeartbeats 4000000 in
theorem part3_spec (c : Dev nD) (v2 : BitVec 32) (v48 : BitVec 32) (c32_i32_44 : BitVec 32) (fo : Buf (Elt F) ((c : Thread nD τ).loc cc0_scratch1)) (fb : Buf (Elt F) ((c : Thread nD τ).loc cc0_scratch2)) (O : CellTallies nD τ sig Unit) (W : Waits sig Unit) (Q : (Σ' (v72 : BitVec 32), BitVec 32) → sProp 𝕄) :
    iprop((cellInv ER (sched m) (K (barCell (fwd c 12))) (barCell (fwd c 12)) ∗ dutyTok ER (barCell (fwd c 12)) 0 (12 : Fin 32) ∗ reached ER (barCell (fwd c 12)) 0
        ∗ reached ER (dmaCell c rsR 0 20) 0 ∗ reached ER (dmaCell c rsR 1 20) 0 ∗ reached ER (dmaCell c agR 0 20) 0 ∗ reached ER (dmaCell c agR 1 20) 0)
      ∗ ((slot 0 20).view.loc (c : Thread nD τ) ↦[(slot 0 20).view.set]{fullShare} fb)
      ∗ ((slot 1 20).view.loc (c : Thread nD τ) ↦[(slot 1 20).view.set]{fullShare} fb)
      ∗ ((chunk outM (fwd c 12) 0).view.loc (c : Thread nD τ) ↦[(chunk outM (fwd c 12) 0).view.set]{fullShare} fo)
      ∗ ((chunk outM (fwd c 12) 1).view.loc (c : Thread nD τ) ↦[(chunk outM (fwd c 12) 1).view.set]{fullShare} fo)
      ∗ (cellInv ER (sched m) (K (barCell (fwd c 13))) (barCell (fwd c 13)) ∗ dutyTok ER (barCell (fwd c 13)) 0 (13 : Fin 32) ∗ reached ER (barCell (fwd c 13)) 0
        ∗ reached ER (dmaCell c rsR 0 19) 0 ∗ reached ER (dmaCell c rsR 1 19) 0 ∗ reached ER (dmaCell c agR 0 19) 0 ∗ reached ER (dmaCell c agR 1 19) 0)
      ∗ ((slot 0 19).view.loc (c : Thread nD τ) ↦[(slot 0 19).view.set]{fullShare} fb)
      ∗ ((slot 1 19).view.loc (c : Thread nD τ) ↦[(slot 1 19).view.set]{fullShare} fb)
      ∗ ((chunk outM (fwd c 13) 0).view.loc (c : Thread nD τ) ↦[(chunk outM (fwd c 13) 0).view.set]{fullShare} fo)
      ∗ ((chunk outM (fwd c 13) 1).view.loc (c : Thread nD τ) ↦[(chunk outM (fwd c 13) 1).view.set]{fullShare} fo)
      ∗ (cellInv ER (sched m) (K (barCell (fwd c 14))) (barCell (fwd c 14)) ∗ dutyTok ER (barCell (fwd c 14)) 0 (14 : Fin 32) ∗ reached ER (barCell (fwd c 14)) 0
        ∗ reached ER (dmaCell c rsR 0 18) 0 ∗ reached ER (dmaCell c rsR 1 18) 0 ∗ reached ER (dmaCell c agR 0 18) 0 ∗ reached ER (dmaCell c agR 1 18) 0)
      ∗ ((slot 0 18).view.loc (c : Thread nD τ) ↦[(slot 0 18).view.set]{fullShare} fb)
      ∗ ((slot 1 18).view.loc (c : Thread nD τ) ↦[(slot 1 18).view.set]{fullShare} fb)
      ∗ ((chunk outM (fwd c 14) 0).view.loc (c : Thread nD τ) ↦[(chunk outM (fwd c 14) 0).view.set]{fullShare} fo)
      ∗ ((chunk outM (fwd c 14) 1).view.loc (c : Thread nD τ) ↦[(chunk outM (fwd c 14) 1).view.set]{fullShare} fo)
      ∗ (cellInv ER (sched m) (K (barCell (fwd c 15))) (barCell (fwd c 15)) ∗ dutyTok ER (barCell (fwd c 15)) 0 (15 : Fin 32) ∗ reached ER (barCell (fwd c 15)) 0
        ∗ reached ER (dmaCell c rsR 0 17) 0 ∗ reached ER (dmaCell c rsR 1 17) 0 ∗ reached ER (dmaCell c agR 0 17) 0 ∗ reached ER (dmaCell c agR 1 17) 0)
      ∗ ((slot 0 17).view.loc (c : Thread nD τ) ↦[(slot 0 17).view.set]{fullShare} fb)
      ∗ ((slot 1 17).view.loc (c : Thread nD τ) ↦[(slot 1 17).view.set]{fullShare} fb)
      ∗ ((chunk outM (fwd c 15) 0).view.loc (c : Thread nD τ) ↦[(chunk outM (fwd c 15) 0).view.set]{fullShare} fo)
      ∗ ((chunk outM (fwd c 15) 1).view.loc (c : Thread nD τ) ↦[(chunk outM (fwd c 15) 1).view.set]{fullShare} fo)
      ∗ (cellInv ER (sched m) (K (barCell (fwd c 16))) (barCell (fwd c 16)) ∗ dutyTok ER (barCell (fwd c 16)) 0 (16 : Fin 32) ∗ reached ER (barCell (fwd c 16)) 0
        ∗ reached ER (dmaCell c rsR 0 16) 0 ∗ reached ER (dmaCell c rsR 1 16) 0 ∗ reached ER (dmaCell c agR 0 16) 0 ∗ reached ER (dmaCell c agR 1 16) 0)
      ∗ ((slot 0 16).view.loc (c : Thread nD τ) ↦[(slot 0 16).view.set]{fullShare} fb)
      ∗ ((slot 1 16).view.loc (c : Thread nD τ) ↦[(slot 1 16).view.set]{fullShare} fb)
      ∗ ((chunk outM (fwd c 16) 0).view.loc (c : Thread nD τ) ↦[(chunk outM (fwd c 16) 0).view.set]{fullShare} fo)
      ∗ ((chunk outM (fwd c 16) 1).view.loc (c : Thread nD τ) ↦[(chunk outM (fwd c 16) 1).view.set]{fullShare} fo)
      ∗ (cellInv ER (sched m) (K (barCell (fwd c 17))) (barCell (fwd c 17)) ∗ dutyTok ER (barCell (fwd c 17)) 0 (17 : Fin 32) ∗ reached ER (barCell (fwd c 17)) 0
        ∗ reached ER (dmaCell c rsR 0 15) 0 ∗ reached ER (dmaCell c rsR 1 15) 0 ∗ reached ER (dmaCell c agR 0 15) 0 ∗ reached ER (dmaCell c agR 1 15) 0)
      ∗ ((slot 0 15).view.loc (c : Thread nD τ) ↦[(slot 0 15).view.set]{fullShare} fb)
      ∗ ((slot 1 15).view.loc (c : Thread nD τ) ↦[(slot 1 15).view.set]{fullShare} fb)
      ∗ ((chunk outM (fwd c 17) 0).view.loc (c : Thread nD τ) ↦[(chunk outM (fwd c 17) 0).view.set]{fullShare} fo)
      ∗ ((chunk outM (fwd c 17) 1).view.loc (c : Thread nD τ) ↦[(chunk outM (fwd c 17) 1).view.set]{fullShare} fo)
      ∗ owes (c : Thread nD τ) (O + tallyAt (barCell (fwd c 17)) () 1 + tallyAt (barCell (fwd c 16)) () 1 + tallyAt (barCell (fwd c 15)) () 1 + tallyAt (barCell (fwd c 14)) () 1 + tallyAt (barCell (fwd c 13)) () 1 + tallyAt (barCell (fwd c 12)) () 1) W
      ∗ (∀ r, (owes (c : Thread nD τ) (O) (W)) -∗ Q r))
      ⊢ wp frame (wpE (defs₀ (F := F)) 𝒱₀ c none) Set.univ (k0_part3 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v48 c32_i32_44) Q := by
  iintro ⟨⟨#IB12, TB12, #RB12, #Rr0_12, #Rr1_12, #Ra0_12, #Ra1_12⟩, S0_12, S1_12, Og0_12, Og1_12, ⟨#IB13, TB13, #RB13, #Rr0_13, #Rr1_13, #Ra0_13, #Ra1_13⟩, S0_13, S1_13, Og0_13, Og1_13, ⟨#IB14, TB14, #RB14, #Rr0_14, #Rr1_14, #Ra0_14, #Ra1_14⟩, S0_14, S1_14, Og0_14, Og1_14, ⟨#IB15, TB15, #RB15, #Rr0_15, #Rr1_15, #Ra0_15, #Ra1_15⟩, S0_15, S1_15, Og0_15, Og1_15, ⟨#IB16, TB16, #RB16, #Rr0_16, #Rr1_16, #Ra0_16, #Ra1_16⟩, S0_16, S1_16, Og0_16, Og1_16, ⟨#IB17, TB17, #RB17, #Rr0_17, #Rr1_17, #Ra0_17, #Ra1_17⟩, S0_17, S1_17, Og0_17, Og1_17, HO, Hk⟩
  sl_exec_parts
  sl_step
  iapply Hk

  iexact HO

attribute [local sl_rounds] duties_dma amount_dma expect_dma duties_bar amount_bar pay_bar_payer_18 pay_bar_payer_19 pay_bar_payer_20 pay_bar_payer_21 pay_bar_payer_22 pay_bar_payer_23 in
set_option maxHeartbeats 4000000 in
theorem part4_spec (c : Dev nD) (v2 : BitVec 32) (v72 : BitVec 32) (c32_i32_68 : BitVec 32) (fo : Buf (Elt F) ((c : Thread nD τ).loc cc0_scratch1)) (fb : Buf (Elt F) ((c : Thread nD τ).loc cc0_scratch2)) (O : CellTallies nD τ sig Unit) (W : Waits sig Unit) (Q : (Σ' (v96 : BitVec 32), BitVec 32) → sProp 𝕄) :
    iprop((cellInv ER (sched m) (K (barCell (fwd c 18))) (barCell (fwd c 18)) ∗ dutyTok ER (barCell (fwd c 18)) 0 (18 : Fin 32) ∗ reached ER (barCell (fwd c 18)) 0
        ∗ reached ER (dmaCell c rsR 0 14) 0 ∗ reached ER (dmaCell c rsR 1 14) 0 ∗ reached ER (dmaCell c agR 0 14) 0 ∗ reached ER (dmaCell c agR 1 14) 0)
      ∗ ((slot 0 14).view.loc (c : Thread nD τ) ↦[(slot 0 14).view.set]{fullShare} fb)
      ∗ ((slot 1 14).view.loc (c : Thread nD τ) ↦[(slot 1 14).view.set]{fullShare} fb)
      ∗ ((chunk outM (fwd c 18) 0).view.loc (c : Thread nD τ) ↦[(chunk outM (fwd c 18) 0).view.set]{fullShare} fo)
      ∗ ((chunk outM (fwd c 18) 1).view.loc (c : Thread nD τ) ↦[(chunk outM (fwd c 18) 1).view.set]{fullShare} fo)
      ∗ (cellInv ER (sched m) (K (barCell (fwd c 19))) (barCell (fwd c 19)) ∗ dutyTok ER (barCell (fwd c 19)) 0 (19 : Fin 32) ∗ reached ER (barCell (fwd c 19)) 0
        ∗ reached ER (dmaCell c rsR 0 13) 0 ∗ reached ER (dmaCell c rsR 1 13) 0 ∗ reached ER (dmaCell c agR 0 13) 0 ∗ reached ER (dmaCell c agR 1 13) 0)
      ∗ ((slot 0 13).view.loc (c : Thread nD τ) ↦[(slot 0 13).view.set]{fullShare} fb)
      ∗ ((slot 1 13).view.loc (c : Thread nD τ) ↦[(slot 1 13).view.set]{fullShare} fb)
      ∗ ((chunk outM (fwd c 19) 0).view.loc (c : Thread nD τ) ↦[(chunk outM (fwd c 19) 0).view.set]{fullShare} fo)
      ∗ ((chunk outM (fwd c 19) 1).view.loc (c : Thread nD τ) ↦[(chunk outM (fwd c 19) 1).view.set]{fullShare} fo)
      ∗ (cellInv ER (sched m) (K (barCell (fwd c 20))) (barCell (fwd c 20)) ∗ dutyTok ER (barCell (fwd c 20)) 0 (20 : Fin 32) ∗ reached ER (barCell (fwd c 20)) 0
        ∗ reached ER (dmaCell c rsR 0 12) 0 ∗ reached ER (dmaCell c rsR 1 12) 0 ∗ reached ER (dmaCell c agR 0 12) 0 ∗ reached ER (dmaCell c agR 1 12) 0)
      ∗ ((slot 0 12).view.loc (c : Thread nD τ) ↦[(slot 0 12).view.set]{fullShare} fb)
      ∗ ((slot 1 12).view.loc (c : Thread nD τ) ↦[(slot 1 12).view.set]{fullShare} fb)
      ∗ ((chunk outM (fwd c 20) 0).view.loc (c : Thread nD τ) ↦[(chunk outM (fwd c 20) 0).view.set]{fullShare} fo)
      ∗ ((chunk outM (fwd c 20) 1).view.loc (c : Thread nD τ) ↦[(chunk outM (fwd c 20) 1).view.set]{fullShare} fo)
      ∗ (cellInv ER (sched m) (K (barCell (fwd c 21))) (barCell (fwd c 21)) ∗ dutyTok ER (barCell (fwd c 21)) 0 (21 : Fin 32) ∗ reached ER (barCell (fwd c 21)) 0
        ∗ reached ER (dmaCell c rsR 0 11) 0 ∗ reached ER (dmaCell c rsR 1 11) 0 ∗ reached ER (dmaCell c agR 0 11) 0 ∗ reached ER (dmaCell c agR 1 11) 0)
      ∗ ((slot 0 11).view.loc (c : Thread nD τ) ↦[(slot 0 11).view.set]{fullShare} fb)
      ∗ ((slot 1 11).view.loc (c : Thread nD τ) ↦[(slot 1 11).view.set]{fullShare} fb)
      ∗ ((chunk outM (fwd c 21) 0).view.loc (c : Thread nD τ) ↦[(chunk outM (fwd c 21) 0).view.set]{fullShare} fo)
      ∗ ((chunk outM (fwd c 21) 1).view.loc (c : Thread nD τ) ↦[(chunk outM (fwd c 21) 1).view.set]{fullShare} fo)
      ∗ (cellInv ER (sched m) (K (barCell (fwd c 22))) (barCell (fwd c 22)) ∗ dutyTok ER (barCell (fwd c 22)) 0 (22 : Fin 32) ∗ reached ER (barCell (fwd c 22)) 0
        ∗ reached ER (dmaCell c rsR 0 10) 0 ∗ reached ER (dmaCell c rsR 1 10) 0 ∗ reached ER (dmaCell c agR 0 10) 0 ∗ reached ER (dmaCell c agR 1 10) 0)
      ∗ ((slot 0 10).view.loc (c : Thread nD τ) ↦[(slot 0 10).view.set]{fullShare} fb)
      ∗ ((slot 1 10).view.loc (c : Thread nD τ) ↦[(slot 1 10).view.set]{fullShare} fb)
      ∗ ((chunk outM (fwd c 22) 0).view.loc (c : Thread nD τ) ↦[(chunk outM (fwd c 22) 0).view.set]{fullShare} fo)
      ∗ ((chunk outM (fwd c 22) 1).view.loc (c : Thread nD τ) ↦[(chunk outM (fwd c 22) 1).view.set]{fullShare} fo)
      ∗ (cellInv ER (sched m) (K (barCell (fwd c 23))) (barCell (fwd c 23)) ∗ dutyTok ER (barCell (fwd c 23)) 0 (23 : Fin 32) ∗ reached ER (barCell (fwd c 23)) 0
        ∗ reached ER (dmaCell c rsR 0 9) 0 ∗ reached ER (dmaCell c rsR 1 9) 0 ∗ reached ER (dmaCell c agR 0 9) 0 ∗ reached ER (dmaCell c agR 1 9) 0)
      ∗ ((slot 0 9).view.loc (c : Thread nD τ) ↦[(slot 0 9).view.set]{fullShare} fb)
      ∗ ((slot 1 9).view.loc (c : Thread nD τ) ↦[(slot 1 9).view.set]{fullShare} fb)
      ∗ ((chunk outM (fwd c 23) 0).view.loc (c : Thread nD τ) ↦[(chunk outM (fwd c 23) 0).view.set]{fullShare} fo)
      ∗ ((chunk outM (fwd c 23) 1).view.loc (c : Thread nD τ) ↦[(chunk outM (fwd c 23) 1).view.set]{fullShare} fo)
      ∗ owes (c : Thread nD τ) (O + tallyAt (barCell (fwd c 23)) () 1 + tallyAt (barCell (fwd c 22)) () 1 + tallyAt (barCell (fwd c 21)) () 1 + tallyAt (barCell (fwd c 20)) () 1 + tallyAt (barCell (fwd c 19)) () 1 + tallyAt (barCell (fwd c 18)) () 1) W
      ∗ (∀ r, (owes (c : Thread nD τ) (O) (W)) -∗ Q r))
      ⊢ wp frame (wpE (defs₀ (F := F)) 𝒱₀ c none) Set.univ (k0_part4 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v72 c32_i32_68) Q := by
  iintro ⟨⟨#IB18, TB18, #RB18, #Rr0_18, #Rr1_18, #Ra0_18, #Ra1_18⟩, S0_18, S1_18, Og0_18, Og1_18, ⟨#IB19, TB19, #RB19, #Rr0_19, #Rr1_19, #Ra0_19, #Ra1_19⟩, S0_19, S1_19, Og0_19, Og1_19, ⟨#IB20, TB20, #RB20, #Rr0_20, #Rr1_20, #Ra0_20, #Ra1_20⟩, S0_20, S1_20, Og0_20, Og1_20, ⟨#IB21, TB21, #RB21, #Rr0_21, #Rr1_21, #Ra0_21, #Ra1_21⟩, S0_21, S1_21, Og0_21, Og1_21, ⟨#IB22, TB22, #RB22, #Rr0_22, #Rr1_22, #Ra0_22, #Ra1_22⟩, S0_22, S1_22, Og0_22, Og1_22, ⟨#IB23, TB23, #RB23, #Rr0_23, #Rr1_23, #Ra0_23, #Ra1_23⟩, S0_23, S1_23, Og0_23, Og1_23, HO, Hk⟩
  sl_exec_parts
  sl_step
  iapply Hk

  iexact HO

attribute [local sl_rounds] duties_dma amount_dma expect_dma duties_bar amount_bar pay_bar_payer_24 pay_bar_payer_25 pay_bar_payer_26 pay_bar_payer_27 pay_bar_payer_28 pay_bar_payer_29 in
set_option maxHeartbeats 4000000 in
theorem part5_spec (c : Dev nD) (v2 : BitVec 32) (v96 : BitVec 32) (c32_i32_92 : BitVec 32) (fo : Buf (Elt F) ((c : Thread nD τ).loc cc0_scratch1)) (fb : Buf (Elt F) ((c : Thread nD τ).loc cc0_scratch2)) (O : CellTallies nD τ sig Unit) (W : Waits sig Unit) (Q : (Σ' (v120 : BitVec 32), BitVec 32) → sProp 𝕄) :
    iprop((cellInv ER (sched m) (K (barCell (fwd c 24))) (barCell (fwd c 24)) ∗ dutyTok ER (barCell (fwd c 24)) 0 (24 : Fin 32) ∗ reached ER (barCell (fwd c 24)) 0
        ∗ reached ER (dmaCell c rsR 0 8) 0 ∗ reached ER (dmaCell c rsR 1 8) 0 ∗ reached ER (dmaCell c agR 0 8) 0 ∗ reached ER (dmaCell c agR 1 8) 0)
      ∗ ((slot 0 8).view.loc (c : Thread nD τ) ↦[(slot 0 8).view.set]{fullShare} fb)
      ∗ ((slot 1 8).view.loc (c : Thread nD τ) ↦[(slot 1 8).view.set]{fullShare} fb)
      ∗ ((chunk outM (fwd c 24) 0).view.loc (c : Thread nD τ) ↦[(chunk outM (fwd c 24) 0).view.set]{fullShare} fo)
      ∗ ((chunk outM (fwd c 24) 1).view.loc (c : Thread nD τ) ↦[(chunk outM (fwd c 24) 1).view.set]{fullShare} fo)
      ∗ (cellInv ER (sched m) (K (barCell (fwd c 25))) (barCell (fwd c 25)) ∗ dutyTok ER (barCell (fwd c 25)) 0 (25 : Fin 32) ∗ reached ER (barCell (fwd c 25)) 0
        ∗ reached ER (dmaCell c rsR 0 7) 0 ∗ reached ER (dmaCell c rsR 1 7) 0 ∗ reached ER (dmaCell c agR 0 7) 0 ∗ reached ER (dmaCell c agR 1 7) 0)
      ∗ ((slot 0 7).view.loc (c : Thread nD τ) ↦[(slot 0 7).view.set]{fullShare} fb)
      ∗ ((slot 1 7).view.loc (c : Thread nD τ) ↦[(slot 1 7).view.set]{fullShare} fb)
      ∗ ((chunk outM (fwd c 25) 0).view.loc (c : Thread nD τ) ↦[(chunk outM (fwd c 25) 0).view.set]{fullShare} fo)
      ∗ ((chunk outM (fwd c 25) 1).view.loc (c : Thread nD τ) ↦[(chunk outM (fwd c 25) 1).view.set]{fullShare} fo)
      ∗ (cellInv ER (sched m) (K (barCell (fwd c 26))) (barCell (fwd c 26)) ∗ dutyTok ER (barCell (fwd c 26)) 0 (26 : Fin 32) ∗ reached ER (barCell (fwd c 26)) 0
        ∗ reached ER (dmaCell c rsR 0 6) 0 ∗ reached ER (dmaCell c rsR 1 6) 0 ∗ reached ER (dmaCell c agR 0 6) 0 ∗ reached ER (dmaCell c agR 1 6) 0)
      ∗ ((slot 0 6).view.loc (c : Thread nD τ) ↦[(slot 0 6).view.set]{fullShare} fb)
      ∗ ((slot 1 6).view.loc (c : Thread nD τ) ↦[(slot 1 6).view.set]{fullShare} fb)
      ∗ ((chunk outM (fwd c 26) 0).view.loc (c : Thread nD τ) ↦[(chunk outM (fwd c 26) 0).view.set]{fullShare} fo)
      ∗ ((chunk outM (fwd c 26) 1).view.loc (c : Thread nD τ) ↦[(chunk outM (fwd c 26) 1).view.set]{fullShare} fo)
      ∗ (cellInv ER (sched m) (K (barCell (fwd c 27))) (barCell (fwd c 27)) ∗ dutyTok ER (barCell (fwd c 27)) 0 (27 : Fin 32) ∗ reached ER (barCell (fwd c 27)) 0
        ∗ reached ER (dmaCell c rsR 0 5) 0 ∗ reached ER (dmaCell c rsR 1 5) 0 ∗ reached ER (dmaCell c agR 0 5) 0 ∗ reached ER (dmaCell c agR 1 5) 0)
      ∗ ((slot 0 5).view.loc (c : Thread nD τ) ↦[(slot 0 5).view.set]{fullShare} fb)
      ∗ ((slot 1 5).view.loc (c : Thread nD τ) ↦[(slot 1 5).view.set]{fullShare} fb)
      ∗ ((chunk outM (fwd c 27) 0).view.loc (c : Thread nD τ) ↦[(chunk outM (fwd c 27) 0).view.set]{fullShare} fo)
      ∗ ((chunk outM (fwd c 27) 1).view.loc (c : Thread nD τ) ↦[(chunk outM (fwd c 27) 1).view.set]{fullShare} fo)
      ∗ (cellInv ER (sched m) (K (barCell (fwd c 28))) (barCell (fwd c 28)) ∗ dutyTok ER (barCell (fwd c 28)) 0 (28 : Fin 32) ∗ reached ER (barCell (fwd c 28)) 0
        ∗ reached ER (dmaCell c rsR 0 4) 0 ∗ reached ER (dmaCell c rsR 1 4) 0 ∗ reached ER (dmaCell c agR 0 4) 0 ∗ reached ER (dmaCell c agR 1 4) 0)
      ∗ ((slot 0 4).view.loc (c : Thread nD τ) ↦[(slot 0 4).view.set]{fullShare} fb)
      ∗ ((slot 1 4).view.loc (c : Thread nD τ) ↦[(slot 1 4).view.set]{fullShare} fb)
      ∗ ((chunk outM (fwd c 28) 0).view.loc (c : Thread nD τ) ↦[(chunk outM (fwd c 28) 0).view.set]{fullShare} fo)
      ∗ ((chunk outM (fwd c 28) 1).view.loc (c : Thread nD τ) ↦[(chunk outM (fwd c 28) 1).view.set]{fullShare} fo)
      ∗ (cellInv ER (sched m) (K (barCell (fwd c 29))) (barCell (fwd c 29)) ∗ dutyTok ER (barCell (fwd c 29)) 0 (29 : Fin 32) ∗ reached ER (barCell (fwd c 29)) 0
        ∗ reached ER (dmaCell c rsR 0 3) 0 ∗ reached ER (dmaCell c rsR 1 3) 0 ∗ reached ER (dmaCell c agR 0 3) 0 ∗ reached ER (dmaCell c agR 1 3) 0)
      ∗ ((slot 0 3).view.loc (c : Thread nD τ) ↦[(slot 0 3).view.set]{fullShare} fb)
      ∗ ((slot 1 3).view.loc (c : Thread nD τ) ↦[(slot 1 3).view.set]{fullShare} fb)
      ∗ ((chunk outM (fwd c 29) 0).view.loc (c : Thread nD τ) ↦[(chunk outM (fwd c 29) 0).view.set]{fullShare} fo)
      ∗ ((chunk outM (fwd c 29) 1).view.loc (c : Thread nD τ) ↦[(chunk outM (fwd c 29) 1).view.set]{fullShare} fo)
      ∗ owes (c : Thread nD τ) (O + tallyAt (barCell (fwd c 29)) () 1 + tallyAt (barCell (fwd c 28)) () 1 + tallyAt (barCell (fwd c 27)) () 1 + tallyAt (barCell (fwd c 26)) () 1 + tallyAt (barCell (fwd c 25)) () 1 + tallyAt (barCell (fwd c 24)) () 1) W
      ∗ (∀ r, (owes (c : Thread nD τ) (O) (W)) -∗ Q r))
      ⊢ wp frame (wpE (defs₀ (F := F)) 𝒱₀ c none) Set.univ (k0_part5 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v96 c32_i32_92) Q := by
  iintro ⟨⟨#IB24, TB24, #RB24, #Rr0_24, #Rr1_24, #Ra0_24, #Ra1_24⟩, S0_24, S1_24, Og0_24, Og1_24, ⟨#IB25, TB25, #RB25, #Rr0_25, #Rr1_25, #Ra0_25, #Ra1_25⟩, S0_25, S1_25, Og0_25, Og1_25, ⟨#IB26, TB26, #RB26, #Rr0_26, #Rr1_26, #Ra0_26, #Ra1_26⟩, S0_26, S1_26, Og0_26, Og1_26, ⟨#IB27, TB27, #RB27, #Rr0_27, #Rr1_27, #Ra0_27, #Ra1_27⟩, S0_27, S1_27, Og0_27, Og1_27, ⟨#IB28, TB28, #RB28, #Rr0_28, #Rr1_28, #Ra0_28, #Ra1_28⟩, S0_28, S1_28, Og0_28, Og1_28, ⟨#IB29, TB29, #RB29, #Rr0_29, #Rr1_29, #Ra0_29, #Ra1_29⟩, S0_29, S1_29, Og0_29, Og1_29, HO, Hk⟩
  sl_exec_parts
  sl_step
  iapply Hk

  iexact HO

end Cert.Kernel.AllReduce

end
-- ==== Proof.Word.BodyCopiesA.lean ====
/-
  The copies of the reduce phase, half 0: the device sends the rows of its partial product that belong to each peer into that peer's slot.
  One statement per printed part of the kernel body, over the resources that part touches and nothing else.
-/
import proofs.«900438_g7700000000000439_dist_gemm_ar_m1024_k1024_n1024_f32_gelu_v7x_i32_1_alg».proof.Proof.Word.BodyTables
noncomputable section
namespace Cert.Kernel.AllReduce
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma in
set_option maxHeartbeats 4000000 in
theorem part7_spec (c : Dev nD) (v2 : BitVec 32) (v147 : BitVec 32) (O : CellTallies nD τ sig Unit) (W : Waits sig Unit) (Q : (Σ' (v171 : BitVec 32), BitVec 32) → sProp 𝕄) :
    iprop(copyRes m K rsS rsR c 0 1
      ∗ ((chunk accM (fwd c 1) 0).view.loc (c : Thread nD τ) ↦[(chunk accM (fwd c 1) 0).view.set]{fullShare} (chunk accM (fwd c 1) 0).view.rep (sent m c (fwd c 1) 0))
      ∗ (∃ f, ((slot 0 1).view.loc (fwd c 1 : Thread nD τ) ↦[(slot 0 1).view.set]{fullShare} f))
      ∗ copyRes m K rsS rsR c 0 2
      ∗ ((chunk accM (fwd c 2) 0).view.loc (c : Thread nD τ) ↦[(chunk accM (fwd c 2) 0).view.set]{fullShare} (chunk accM (fwd c 2) 0).view.rep (sent m c (fwd c 2) 0))
      ∗ (∃ f, ((slot 0 2).view.loc (fwd c 2 : Thread nD τ) ↦[(slot 0 2).view.set]{fullShare} f))
      ∗ owes (c : Thread nD τ) (O + tallyAt (dmaCell (fwd c 2) rsR 0 2) () Nc + tallyAt (dmaCell (fwd c 1) rsR 0 1) () Nc) W
      ∗ (∀ r, (recvRes m K rsS c 0 1
        ∗ recvRes m K rsS c 0 2
        ∗ owes (c : Thread nD τ) (O) (W)) -∗ Q r))
      ⊢ wp frame (wpE (defs₀ (F := F)) 𝒱₀ c none) Set.univ (k0_part7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v147) Q := by
  unfold copyRes
  iintro ⟨⟨#ISrsS0_1, TSrsS0_1, #RSrsS0_1, ASrsS0_1, #IDrsS0_1, TDrsS0_1, #RDrsS0_1⟩, SrcrsS0_1, ⟨%grsS0_1, DstrsS0_1⟩, ⟨#ISrsS0_2, TSrsS0_2, #RSrsS0_2, ASrsS0_2, #IDrsS0_2, TDrsS0_2, #RDrsS0_2⟩, SrcrsS0_2, ⟨%grsS0_2, DstrsS0_2⟩, HO, Hk⟩
  sl_exec_parts (disch := simp only [dev32_eq, dev33_eq])
  iapply (wp_send_rs m K c 0 1 (by decide) grsS0_1 (W) (O + tallyAt (dmaCell (fwd c 2) rsR 0 2) () Nc + tallyAt (dmaCell (fwd c 1) rsR 0 1) () Nc) (O + tallyAt (dmaCell (fwd c 2) rsR 0 2) () Nc) rfl) $$ [TSrsS0_1 TDrsS0_1 SrcrsS0_1 DstrsS0_1 HO]
  · isplitr; · iexact ISrsS0_1
    isplitr; · iexact IDrsS0_1
    isplitl [SrcrsS0_1]; · iexact SrcrsS0_1
    isplitl [DstrsS0_1]; · iexact DstrsS0_1
    isplitl [HO]; · iexact HO
    isplitl [TSrsS0_1]; · iexact TSrsS0_1
    isplitr; · iexact RSrsS0_1
    isplitl [TDrsS0_1]; · iexact TDrsS0_1
    iexact RDrsS0_1
  iintro ⟨CSrsS0_1, HO⟩
  sl_exec_parts (disch := simp only [dev32_eq, dev33_eq])
  iapply (wp_send_rs m K c 0 2 (by decide) grsS0_2 (W) (O + tallyAt (dmaCell (fwd c 2) rsR 0 2) () Nc) (O) rfl) $$ [TSrsS0_2 TDrsS0_2 SrcrsS0_2 DstrsS0_2 HO]
  · isplitr; · iexact ISrsS0_2
    isplitr; · iexact IDrsS0_2
    isplitl [SrcrsS0_2]; · iexact SrcrsS0_2
    isplitl [DstrsS0_2]; · iexact DstrsS0_2
    isplitl [HO]; · iexact HO
    isplitl [TSrsS0_2]; · iexact TSrsS0_2
    isplitr; · iexact RSrsS0_2
    isplitl [TDrsS0_2]; · iexact TDrsS0_2
    iexact RDrsS0_2
  iintro ⟨CSrsS0_2, HO⟩
  sl_exec_parts (disch := simp only [dev32_eq, dev33_eq])
  sl_step
  iapply Hk
  isplitl [ASrsS0_1 CSrsS0_1]
  · (try unfold recvRes)
    isplitr; · iexact ISrsS0_1
    isplitl [ASrsS0_1]; · iexact ASrsS0_1
    iexact CSrsS0_1
  isplitl [ASrsS0_2 CSrsS0_2]
  · (try unfold recvRes)
    isplitr; · iexact ISrsS0_2
    isplitl [ASrsS0_2]; · iexact ASrsS0_2
    iexact CSrsS0_2
  iexact HO

attribute [local sl_rounds] duties_dma amount_dma expect_dma in
set_option maxHeartbeats 4000000 in
theorem part8_spec (c : Dev nD) (v2 : BitVec 32) (v171 : BitVec 32) (c1_i32_173 : BitVec 32) (O : CellTallies nD τ sig Unit) (W : Waits sig Unit) (Q : (PUnit) → sProp 𝕄) :
    iprop(copyRes m K rsS rsR c 0 3
      ∗ ((chunk accM (fwd c 3) 0).view.loc (c : Thread nD τ) ↦[(chunk accM (fwd c 3) 0).view.set]{fullShare} (chunk accM (fwd c 3) 0).view.rep (sent m c (fwd c 3) 0))
      ∗ (∃ f, ((slot 0 3).view.loc (fwd c 3 : Thread nD τ) ↦[(slot 0 3).view.set]{fullShare} f))
      ∗ copyRes m K rsS rsR c 0 4
      ∗ ((chunk accM (fwd c 4) 0).view.loc (c : Thread nD τ) ↦[(chunk accM (fwd c 4) 0).view.set]{fullShare} (chunk accM (fwd c 4) 0).view.rep (sent m c (fwd c 4) 0))
      ∗ (∃ f, ((slot 0 4).view.loc (fwd c 4 : Thread nD τ) ↦[(slot 0 4).view.set]{fullShare} f))
      ∗ owes (c : Thread nD τ) (O + tallyAt (dmaCell (fwd c 4) rsR 0 4) () Nc + tallyAt (dmaCell (fwd c 3) rsR 0 3) () Nc) W
      ∗ (∀ r, (recvRes m K rsS c 0 3
        ∗ recvRes m K rsS c 0 4
        ∗ owes (c : Thread nD τ) (O) (W)) -∗ Q r))
      ⊢ wp frame (wpE (defs₀ (F := F)) 𝒱₀ c none) Set.univ (k0_part8 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v171 c1_i32_173) Q := by
  unfold copyRes
  iintro ⟨⟨#ISrsS0_3, TSrsS0_3, #RSrsS0_3, ASrsS0_3, #IDrsS0_3, TDrsS0_3, #RDrsS0_3⟩, SrcrsS0_3, ⟨%grsS0_3, DstrsS0_3⟩, ⟨#ISrsS0_4, TSrsS0_4, #RSrsS0_4, ASrsS0_4, #IDrsS0_4, TDrsS0_4, #RDrsS0_4⟩, SrcrsS0_4, ⟨%grsS0_4, DstrsS0_4⟩, HO, Hk⟩
  sl_exec_parts (disch := simp only [dev34_eq, dev35_eq])
  iapply (wp_send_rs m K c 0 3 (by decide) grsS0_3 (W) (O + tallyAt (dmaCell (fwd c 4) rsR 0 4) () Nc + tallyAt (dmaCell (fwd c 3) rsR 0 3) () Nc) (O + tallyAt (dmaCell (fwd c 4) rsR 0 4) () Nc) rfl) $$ [TSrsS0_3 TDrsS0_3 SrcrsS0_3 DstrsS0_3 HO]
  · isplitr; · iexact ISrsS0_3
    isplitr; · iexact IDrsS0_3
    isplitl [SrcrsS0_3]; · iexact SrcrsS0_3
    isplitl [DstrsS0_3]; · iexact DstrsS0_3
    isplitl [HO]; · iexact HO
    isplitl [TSrsS0_3]; · iexact TSrsS0_3
    isplitr; · iexact RSrsS0_3
    isplitl [TDrsS0_3]; · iexact TDrsS0_3
    iexact RDrsS0_3
  iintro ⟨CSrsS0_3, HO⟩
  sl_exec_parts (disch := simp only [dev34_eq, dev35_eq])
  iapply (wp_send_rs m K c 0 4 (by decide) grsS0_4 (W) (O + tallyAt (dmaCell (fwd c 4) rsR 0 4) () Nc) (O) rfl) $$ [TSrsS0_4 TDrsS0_4 SrcrsS0_4 DstrsS0_4 HO]
  · isplitr; · iexact ISrsS0_4
    isplitr; · iexact IDrsS0_4
    isplitl [SrcrsS0_4]; · iexact SrcrsS0_4
    isplitl [DstrsS0_4]; · iexact DstrsS0_4
    isplitl [HO]; · iexact HO
    isplitl [TSrsS0_4]; · iexact TSrsS0_4
    isplitr; · iexact RSrsS0_4
    isplitl [TDrsS0_4]; · iexact TDrsS0_4
    iexact RDrsS0_4
  iintro ⟨CSrsS0_4, HO⟩
  sl_exec_parts (disch := simp only [dev34_eq, dev35_eq])
  sl_step
  iapply Hk
  isplitl [ASrsS0_3 CSrsS0_3]
  · (try unfold recvRes)
    isplitr; · iexact ISrsS0_3
    isplitl [ASrsS0_3]; · iexact ASrsS0_3
    iexact CSrsS0_3
  isplitl [ASrsS0_4 CSrsS0_4]
  · (try unfold recvRes)
    isplitr; · iexact ISrsS0_4
    isplitl [ASrsS0_4]; · iexact ASrsS0_4
    iexact CSrsS0_4
  iexact HO

attribute [local sl_rounds] duties_dma amount_dma expect_dma in
set_option maxHeartbeats 4000000 in
theorem part9_spec (c : Dev nD) (v2 : BitVec 32) (O : CellTallies nD τ sig Unit) (W : Waits sig Unit) (Q : (PUnit) → sProp 𝕄) :
    iprop(copyRes m K rsS rsR c 0 5
      ∗ ((chunk accM (fwd c 5) 0).view.loc (c : Thread nD τ) ↦[(chunk accM (fwd c 5) 0).view.set]{fullShare} (chunk accM (fwd c 5) 0).view.rep (sent m c (fwd c 5) 0))
      ∗ (∃ f, ((slot 0 5).view.loc (fwd c 5 : Thread nD τ) ↦[(slot 0 5).view.set]{fullShare} f))
      ∗ copyRes m K rsS rsR c 0 6
      ∗ ((chunk accM (fwd c 6) 0).view.loc (c : Thread nD τ) ↦[(chunk accM (fwd c 6) 0).view.set]{fullShare} (chunk accM (fwd c 6) 0).view.rep (sent m c (fwd c 6) 0))
      ∗ (∃ f, ((slot 0 6).view.loc (fwd c 6 : Thread nD τ) ↦[(slot 0 6).view.set]{fullShare} f))
      ∗ owes (c : Thread nD τ) (O + tallyAt (dmaCell (fwd c 6) rsR 0 6) () Nc + tallyAt (dmaCell (fwd c 5) rsR 0 5) () Nc) W
      ∗ (∀ r, (recvRes m K rsS c 0 5
        ∗ recvRes m K rsS c 0 6
        ∗ owes (c : Thread nD τ) (O) (W)) -∗ Q r))
      ⊢ wp frame (wpE (defs₀ (F := F)) 𝒱₀ c none) Set.univ (k0_part9 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS0_5, TSrsS0_5, #RSrsS0_5, ASrsS0_5, #IDrsS0_5, TDrsS0_5, #RDrsS0_5⟩, SrcrsS0_5, ⟨%grsS0_5, DstrsS0_5⟩, ⟨#ISrsS0_6, TSrsS0_6, #RSrsS0_6, ASrsS0_6, #IDrsS0_6, TDrsS0_6, #RDrsS0_6⟩, SrcrsS0_6, ⟨%grsS0_6, DstrsS0_6⟩, HO, Hk⟩
  sl_exec_parts (disch := simp only [dev36_eq, dev37_eq])
  iapply (wp_send_rs m K c 0 5 (by decide) grsS0_5 (W) (O + tallyAt (dmaCell (fwd c 6) rsR 0 6) () Nc + tallyAt (dmaCell (fwd c 5) rsR 0 5) () Nc) (O + tallyAt (dmaCell (fwd c 6) rsR 0 6) () Nc) rfl) $$ [TSrsS0_5 TDrsS0_5 SrcrsS0_5 DstrsS0_5 HO]
  · isplitr; · iexact ISrsS0_5
    isplitr; · iexact IDrsS0_5
    isplitl [SrcrsS0_5]; · iexact SrcrsS0_5
    isplitl [DstrsS0_5]; · iexact DstrsS0_5
    isplitl [HO]; · iexact HO
    isplitl [TSrsS0_5]; · iexact TSrsS0_5
    isplitr; · iexact RSrsS0_5
    isplitl [TDrsS0_5]; · iexact TDrsS0_5
    iexact RDrsS0_5
  iintro ⟨CSrsS0_5, HO⟩
  sl_exec_parts (disch := simp only [dev36_eq, dev37_eq])
  iapply (wp_send_rs m K c 0 6 (by decide) grsS0_6 (W) (O + tallyAt (dmaCell (fwd c 6) rsR 0 6) () Nc) (O) rfl) $$ [TSrsS0_6 TDrsS0_6 SrcrsS0_6 DstrsS0_6 HO]
  · isplitr; · iexact ISrsS0_6
    isplitr; · iexact IDrsS0_6
    isplitl [SrcrsS0_6]; · iexact SrcrsS0_6
    isplitl [DstrsS0_6]; · iexact DstrsS0_6
    isplitl [HO]; · iexact HO
    isplitl [TSrsS0_6]; · iexact TSrsS0_6
    isplitr; · iexact RSrsS0_6
    isplitl [TDrsS0_6]; · iexact TDrsS0_6
    iexact RDrsS0_6
  iintro ⟨CSrsS0_6, HO⟩
  sl_exec_parts (disch := simp only [dev36_eq, dev37_eq])
  sl_step
  iapply Hk
  isplitl [ASrsS0_5 CSrsS0_5]
  · (try unfold recvRes)
    isplitr; · iexact ISrsS0_5
    isplitl [ASrsS0_5]; · iexact ASrsS0_5
    iexact CSrsS0_5
  isplitl [ASrsS0_6 CSrsS0_6]
  · (try unfold recvRes)
    isplitr; · iexact ISrsS0_6
    isplitl [ASrsS0_6]; · iexact ASrsS0_6
    iexact CSrsS0_6
  iexact HO

attribute [local sl_rounds] duties_dma amount_dma expect_dma in
set_option maxHeartbeats 4000000 in
theorem part10_spec (c : Dev nD) (v2 : BitVec 32) (O : CellTallies nD τ sig Unit) (W : Waits sig Unit) (Q : (BitVec 32) → sProp 𝕄) :
    iprop(copyRes m K rsS rsR c 0 7
      ∗ ((chunk accM (fwd c 7) 0).view.loc (c : Thread nD τ) ↦[(chunk accM (fwd c 7) 0).view.set]{fullShare} (chunk accM (fwd c 7) 0).view.rep (sent m c (fwd c 7) 0))
      ∗ (∃ f, ((slot 0 7).view.loc (fwd c 7 : Thread nD τ) ↦[(slot 0 7).view.set]{fullShare} f))
      ∗ copyRes m K rsS rsR c 0 8
      ∗ ((chunk accM (fwd c 8) 0).view.loc (c : Thread nD τ) ↦[(chunk accM (fwd c 8) 0).view.set]{fullShare} (chunk accM (fwd c 8) 0).view.rep (sent m c (fwd c 8) 0))
      ∗ (∃ f, ((slot 0 8).view.loc (fwd c 8 : Thread nD τ) ↦[(slot 0 8).view.set]{fullShare} f))
      ∗ copyRes m K rsS rsR c 0 9
      ∗ ((chunk accM (fwd c 9) 0).view.loc (c : Thread nD τ) ↦[(chunk accM (fwd c 9) 0).view.set]{fullShare} (chunk accM (fwd c 9) 0).view.rep (sent m c (fwd c 9) 0))
      ∗ (∃ f, ((slot 0 9).view.loc (fwd c 9 : Thread nD τ) ↦[(slot 0 9).view.set]{fullShare} f))
      ∗ owes (c : Thread nD τ) (O + tallyAt (dmaCell (fwd c 9) rsR 0 9) () Nc + tallyAt (dmaCell (fwd c 8) rsR 0 8) () Nc + tallyAt (dmaCell (fwd c 7) rsR 0 7) () Nc) W
      ∗ (∀ r, (recvRes m K rsS c 0 7
        ∗ recvRes m K rsS c 0 8
        ∗ recvRes m K rsS c 0 9
        ∗ owes (c : Thread nD τ) (O) (W)) -∗ Q r))
      ⊢ wp frame (wpE (defs₀ (F := F)) 𝒱₀ c none) Set.univ (k0_part10 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS0_7, TSrsS0_7, #RSrsS0_7, ASrsS0_7, #IDrsS0_7, TDrsS0_7, #RDrsS0_7⟩, SrcrsS0_7, ⟨%grsS0_7, DstrsS0_7⟩, ⟨#ISrsS0_8, TSrsS0_8, #RSrsS0_8, ASrsS0_8, #IDrsS0_8, TDrsS0_8, #RDrsS0_8⟩, SrcrsS0_8, ⟨%grsS0_8, DstrsS0_8⟩, ⟨#ISrsS0_9, TSrsS0_9, #RSrsS0_9, ASrsS0_9, #IDrsS0_9, TDrsS0_9, #RDrsS0_9⟩, SrcrsS0_9, ⟨%grsS0_9, DstrsS0_9⟩, HO, Hk⟩
  sl_exec_parts (disch := simp only [dev38_eq, dev39_eq, dev40_eq])
  iapply (wp_send_rs m K c 0 7 (by decide) grsS0_7 (W) (O + tallyAt (dmaCell (fwd c 9) rsR 0 9) () Nc + tallyAt (dmaCell (fwd c 8) rsR 0 8) () Nc + tallyAt (dmaCell (fwd c 7) rsR 0 7) () Nc) (O + tallyAt (dmaCell (fwd c 9) rsR 0 9) () Nc + tallyAt (dmaCell (fwd c 8) rsR 0 8) () Nc) rfl) $$ [TSrsS0_7 TDrsS0_7 SrcrsS0_7 DstrsS0_7 HO]
  · isplitr; · iexact ISrsS0_7
    isplitr; · iexact IDrsS0_7
    isplitl [SrcrsS0_7]; · iexact SrcrsS0_7
    isplitl [DstrsS0_7]; · iexact DstrsS0_7
    isplitl [HO]; · iexact HO
    isplitl [TSrsS0_7]; · iexact TSrsS0_7
    isplitr; · iexact RSrsS0_7
    isplitl [TDrsS0_7]; · iexact TDrsS0_7
    iexact RDrsS0_7
  iintro ⟨CSrsS0_7, HO⟩
  sl_exec_parts (disch := simp only [dev38_eq, dev39_eq, dev40_eq])
  iapply (wp_send_rs m K c 0 8 (by decide) grsS0_8 (W) (O + tallyAt (dmaCell (fwd c 9) rsR 0 9) () Nc + tallyAt (dmaCell (fwd c 8) rsR 0 8) () Nc) (O + tallyAt (dmaCell (fwd c 9) rsR 0 9) () Nc) rfl) $$ [TSrsS0_8 TDrsS0_8 SrcrsS0_8 DstrsS0_8 HO]
  · isplitr; · iexact ISrsS0_8
    isplitr; · iexact IDrsS0_8
    isplitl [SrcrsS0_8]; · iexact SrcrsS0_8
    isplitl [DstrsS0_8]; · iexact DstrsS0_8
    isplitl [HO]; · iexact HO
    isplitl [TSrsS0_8]; · iexact TSrsS0_8
    isplitr; · iexact RSrsS0_8
    isplitl [TDrsS0_8]; · iexact TDrsS0_8
    iexact RDrsS0_8
  iintro ⟨CSrsS0_8, HO⟩
  sl_exec_parts (disch := simp only [dev38_eq, dev39_eq, dev40_eq])
  iapply (wp_send_rs m K c 0 9 (by decide) grsS0_9 (W) (O + tallyAt (dmaCell (fwd c 9) rsR 0 9) () Nc) (O) rfl) $$ [TSrsS0_9 TDrsS0_9 SrcrsS0_9 DstrsS0_9 HO]
  · isplitr; · iexact ISrsS0_9
    isplitr; · iexact IDrsS0_9
    isplitl [SrcrsS0_9]; · iexact SrcrsS0_9
    isplitl [DstrsS0_9]; · iexact DstrsS0_9
    isplitl [HO]; · iexact HO
    isplitl [TSrsS0_9]; · iexact TSrsS0_9
    isplitr; · iexact RSrsS0_9
    isplitl [TDrsS0_9]; · iexact TDrsS0_9
    iexact RDrsS0_9
  iintro ⟨CSrsS0_9, HO⟩
  sl_exec_parts (disch := simp only [dev38_eq, dev39_eq, dev40_eq])
  sl_step
  iapply Hk
  isplitl [ASrsS0_7 CSrsS0_7]
  · (try unfold recvRes)
    isplitr; · iexact ISrsS0_7
    isplitl [ASrsS0_7]; · iexact ASrsS0_7
    iexact CSrsS0_7
  isplitl [ASrsS0_8 CSrsS0_8]
  · (try unfold recvRes)
    isplitr; · iexact ISrsS0_8
    isplitl [ASrsS0_8]; · iexact ASrsS0_8
    iexact CSrsS0_8
  isplitl [ASrsS0_9 CSrsS0_9]
  · (try unfold recvRes)
    isplitr; · iexact ISrsS0_9
    isplitl [ASrsS0_9]; · iexact ASrsS0_9
    iexact CSrsS0_9
  iexact HO

attribute [local sl_rounds] duties_dma amount_dma expect_dma in
set_option maxHeartbeats 4000000 in
theorem part11_spec (c : Dev nD) (v2 : BitVec 32) (v255 : BitVec 32) (O : CellTallies nD τ sig Unit) (W : Waits sig Unit) (Q : (BitVec 32) → sProp 𝕄) :
    iprop(copyRes m K rsS rsR c 0 10
      ∗ ((chunk accM (fwd c 10) 0).view.loc (c : Thread nD τ) ↦[(chunk accM (fwd c 10) 0).view.set]{fullShare} (chunk accM (fwd c 10) 0).view.rep (sent m c (fwd c 10) 0))
      ∗ (∃ f, ((slot 0 10).view.loc (fwd c 10 : Thread nD τ) ↦[(slot 0 10).view.set]{fullShare} f))
      ∗ copyRes m K rsS rsR c 0 11
      ∗ ((chunk accM (fwd c 11) 0).view.loc (c : Thread nD τ) ↦[(chunk accM (fwd c 11) 0).view.set]{fullShare} (chunk accM (fwd c 11) 0).view.rep (sent m c (fwd c 11) 0))
      ∗ (∃ f, ((slot 0 11).view.loc (fwd c 11 : Thread nD τ) ↦[(slot 0 11).view.set]{fullShare} f))
      ∗ owes (c : Thread nD τ) (O + tallyAt (dmaCell (fwd c 11) rsR 0 11) () Nc + tallyAt (dmaCell (fwd c 10) rsR 0 10) () Nc) W
      ∗ (∀ r, (recvRes m K rsS c 0 10
        ∗ recvRes m K rsS c 0 11
        ∗ owes (c : Thread nD τ) (O) (W)) -∗ Q r))
      ⊢ wp frame (wpE (defs₀ (F := F)) 𝒱₀ c none) Set.univ (k0_part11 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v255) Q := by
  unfold copyRes
  iintro ⟨⟨#ISrsS0_10, TSrsS0_10, #RSrsS0_10, ASrsS0_10, #IDrsS0_10, TDrsS0_10, #RDrsS0_10⟩, SrcrsS0_10, ⟨%grsS0_10, DstrsS0_10⟩, ⟨#ISrsS0_11, TSrsS0_11, #RSrsS0_11, ASrsS0_11, #IDrsS0_11, TDrsS0_11, #RDrsS0_11⟩, SrcrsS0_11, ⟨%grsS0_11, DstrsS0_11⟩, HO, Hk⟩
  sl_exec_parts (disch := simp only [dev41_eq, dev42_eq])
  iapply (wp_send_rs m K c 0 10 (by decide) grsS0_10 (W) (O + tallyAt (dmaCell (fwd c 11) rsR 0 11) () Nc + tallyAt (dmaCell (fwd c 10) rsR 0 10) () Nc) (O + tallyAt (dmaCell (fwd c 11) rsR 0 11) () Nc) rfl) $$ [TSrsS0_10 TDrsS0_10 SrcrsS0_10 DstrsS0_10 HO]
  · isplitr; · iexact ISrsS0_10
    isplitr; · iexact IDrsS0_10
    isplitl [SrcrsS0_10]; · iexact SrcrsS0_10
    isplitl [DstrsS0_10]; · iexact DstrsS0_10
    isplitl [HO]; · iexact HO
    isplitl [TSrsS0_10]; · iexact TSrsS0_10
    isplitr; · iexact RSrsS0_10
    isplitl [TDrsS0_10]; · iexact TDrsS0_10
    iexact RDrsS0_10
  iintro ⟨CSrsS0_10, HO⟩
  sl_exec_parts (disch := simp only [dev41_eq, dev42_eq])
  iapply (wp_send_rs m K c 0 11 (by decide) grsS0_11 (W) (O + tallyAt (dmaCell (fwd c 11) rsR 0 11) () Nc) (O) rfl) $$ [TSrsS0_11 TDrsS0_11 SrcrsS0_11 DstrsS0_11 HO]
  · isplitr; · iexact ISrsS0_11
    isplitr; · iexact IDrsS0_11
    isplitl [SrcrsS0_11]; · iexact SrcrsS0_11
    isplitl [DstrsS0_11]; · iexact DstrsS0_11
    isplitl [HO]; · iexact HO
    isplitl [TSrsS0_11]; · iexact TSrsS0_11
    isplitr; · iexact RSrsS0_11
    isplitl [TDrsS0_11]; · iexact TDrsS0_11
    iexact RDrsS0_11
  iintro ⟨CSrsS0_11, HO⟩
  sl_exec_parts (disch := simp only [dev41_eq, dev42_eq])
  sl_step
  iapply Hk
  isplitl [ASrsS0_10 CSrsS0_10]
  · (try unfold recvRes)
    isplitr; · iexact ISrsS0_10
    isplitl [ASrsS0_10]; · iexact ASrsS0_10
    iexact CSrsS0_10
  isplitl [ASrsS0_11 CSrsS0_11]
  · (try unfold recvRes)
    isplitr; · iexact ISrsS0_11
    isplitl [ASrsS0_11]; · iexact ASrsS0_11
    iexact CSrsS0_11
  iexact HO

attribute [local sl_rounds] duties_dma amount_dma expect_dma in
set_option maxHeartbeats 4000000 in
theorem part12_spec (c : Dev nD) (v2 : BitVec 32) (v279 : BitVec 32) (O : CellTallies nD τ sig Unit) (W : Waits sig Unit) (Q : (PUnit) → sProp 𝕄) :
    iprop(copyRes m K rsS rsR c 0 12
      ∗ ((chunk accM (fwd c 12) 0).view.loc (c : Thread nD τ) ↦[(chunk accM (fwd c 12) 0).view.set]{fullShare} (chunk accM (fwd c 12) 0).view.rep (sent m c (fwd c 12) 0))
      ∗ (∃ f, ((slot 0 12).view.loc (fwd c 12 : Thread nD τ) ↦[(slot 0 12).view.set]{fullShare} f))
      ∗ copyRes m K rsS rsR c 0 13
      ∗ ((chunk accM (fwd c 13) 0).view.loc (c : Thread nD τ) ↦[(chunk accM (fwd c 13) 0).view.set]{fullShare} (chunk accM (fwd c 13) 0).view.rep (sent m c (fwd c 13) 0))
      ∗ (∃ f, ((slot 0 13).view.loc (fwd c 13 : Thread nD τ) ↦[(slot 0 13).view.set]{fullShare} f))
      ∗ owes (c : Thread nD τ) (O + tallyAt (dmaCell (fwd c 13) rsR 0 13) () Nc + tallyAt (dmaCell (fwd c 12) rsR 0 12) () Nc) W
      ∗ (∀ r, (recvRes m K rsS c 0 12
        ∗ recvRes m K rsS c 0 13
        ∗ owes (c : Thread nD τ) (O) (W)) -∗ Q r))
      ⊢ wp frame (wpE (defs₀ (F := F)) 𝒱₀ c none) Set.univ (k0_part12 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v279) Q := by
  unfold copyRes
  iintro ⟨⟨#ISrsS0_12, TSrsS0_12, #RSrsS0_12, ASrsS0_12, #IDrsS0_12, TDrsS0_12, #RDrsS0_12⟩, SrcrsS0_12, ⟨%grsS0_12, DstrsS0_12⟩, ⟨#ISrsS0_13, TSrsS0_13, #RSrsS0_13, ASrsS0_13, #IDrsS0_13, TDrsS0_13, #RDrsS0_13⟩, SrcrsS0_13, ⟨%grsS0_13, DstrsS0_13⟩, HO, Hk⟩
  sl_exec_parts (disch := simp only [dev43_eq, dev44_eq])
  iapply (wp_send_rs m K c 0 12 (by decide) grsS0_12 (W) (O + tallyAt (dmaCell (fwd c 13) rsR 0 13) () Nc + tallyAt (dmaCell (fwd c 12) rsR 0 12) () Nc) (O + tallyAt (dmaCell (fwd c 13) rsR 0 13) () Nc) rfl) $$ [TSrsS0_12 TDrsS0_12 SrcrsS0_12 DstrsS0_12 HO]
  · isplitr; · iexact ISrsS0_12
    isplitr; · iexact IDrsS0_12
    isplitl [SrcrsS0_12]; · iexact SrcrsS0_12
    isplitl [DstrsS0_12]; · iexact DstrsS0_12
    isplitl [HO]; · iexact HO
    isplitl [TSrsS0_12]; · iexact TSrsS0_12
    isplitr; · iexact RSrsS0_12
    isplitl [TDrsS0_12]; · iexact TDrsS0_12
    iexact RDrsS0_12
  iintro ⟨CSrsS0_12, HO⟩
  sl_exec_parts (disch := simp only [dev43_eq, dev44_eq])
  iapply (wp_send_rs m K c 0 13 (by decide) grsS0_13 (W) (O + tallyAt (dmaCell (fwd c 13) rsR 0 13) () Nc) (O) rfl) $$ [TSrsS0_13 TDrsS0_13 SrcrsS0_13 DstrsS0_13 HO]
  · isplitr; · iexact ISrsS0_13
    isplitr; · iexact IDrsS0_13
    isplitl [SrcrsS0_13]; · iexact SrcrsS0_13
    isplitl [DstrsS0_13]; · iexact DstrsS0_13
    isplitl [HO]; · iexact HO
    isplitl [TSrsS0_13]; · iexact TSrsS0_13
    isplitr; · iexact RSrsS0_13
    isplitl [TDrsS0_13]; · iexact TDrsS0_13
    iexact RDrsS0_13
  iintro ⟨CSrsS0_13, HO⟩
  sl_exec_parts (disch := simp only [dev43_eq, dev44_eq])
  sl_step
  iapply Hk
  isplitl [ASrsS0_12 CSrsS0_12]
  · (try unfold recvRes)
    isplitr; · iexact ISrsS0_12
    isplitl [ASrsS0_12]; · iexact ASrsS0_12
    iexact CSrsS0_12
  isplitl [ASrsS0_13 CSrsS0_13]
  · (try unfold recvRes)
    isplitr; · iexact ISrsS0_13
    isplitl [ASrsS0_13]; · iexact ASrsS0_13
    iexact CSrsS0_13
  iexact HO

attribute [local sl_rounds] duties_dma amount_dma expect_dma in
set_option maxHeartbeats 4000000 in
theorem part13_spec (c : Dev nD) (v2 : BitVec 32) (O : CellTallies nD τ sig Unit) (W : Waits sig Unit) (Q : (PUnit) → sProp 𝕄) :
    iprop(copyRes m K rsS rsR c 0 14
      ∗ ((chunk accM (fwd c 14) 0).view.loc (c : Thread nD τ) ↦[(chunk accM (fwd c 14) 0).view.set]{fullShare} (chunk accM (fwd c 14) 0).view.rep (sent m c (fwd c 14) 0))
      ∗ (∃ f, ((slot 0 14).view.loc (fwd c 14 : Thread nD τ) ↦[(slot 0 14).view.set]{fullShare} f))
      ∗ copyRes m K rsS rsR c 0 15
      ∗ ((chunk accM (fwd c 15) 0).view.loc (c : Thread nD τ) ↦[(chunk accM (fwd c 15) 0).view.set]{fullShare} (chunk accM (fwd c 15) 0).view.rep (sent m c (fwd c 15) 0))
      ∗ (∃ f, ((slot 0 15).view.loc (fwd c 15 : Thread nD τ) ↦[(slot 0 15).view.set]{fullShare} f))
      ∗ owes (c : Thread nD τ) (O + tallyAt (dmaCell (fwd c 15) rsR 0 15) () Nc + tallyAt (dmaCell (fwd c 14) rsR 0 14) () Nc) W
      ∗ (∀ r, (recvRes m K rsS c 0 14
        ∗ recvRes m K rsS c 0 15
        ∗ owes (c : Thread nD τ) (O) (W)) -∗ Q r))
      ⊢ wp frame (wpE (defs₀ (F := F)) 𝒱₀ c none) Set.univ (k0_part13 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS0_14, TSrsS0_14, #RSrsS0_14, ASrsS0_14, #IDrsS0_14, TDrsS0_14, #RDrsS0_14⟩, SrcrsS0_14, ⟨%grsS0_14, DstrsS0_14⟩, ⟨#ISrsS0_15, TSrsS0_15, #RSrsS0_15, ASrsS0_15, #IDrsS0_15, TDrsS0_15, #RDrsS0_15⟩, SrcrsS0_15, ⟨%grsS0_15, DstrsS0_15⟩, HO, Hk⟩
  sl_exec_parts (disch := simp only [dev45_eq, dev46_eq])
  iapply (wp_send_rs m K c 0 14 (by decide) grsS0_14 (W) (O + tallyAt (dmaCell (fwd c 15) rsR 0 15) () Nc + tallyAt (dmaCell (fwd c 14) rsR 0 14) () Nc) (O + tallyAt (dmaCell (fwd c 15) rsR 0 15) () Nc) rfl) $$ [TSrsS0_14 TDrsS0_14 SrcrsS0_14 DstrsS0_14 HO]
  · isplitr; · iexact ISrsS0_14
    isplitr; · iexact IDrsS0_14
    isplitl [SrcrsS0_14]; · iexact SrcrsS0_14
    isplitl [DstrsS0_14]; · iexact DstrsS0_14
    isplitl [HO]; · iexact HO
    isplitl [TSrsS0_14]; · iexact TSrsS0_14
    isplitr; · iexact RSrsS0_14
    isplitl [TDrsS0_14]; · iexact TDrsS0_14
    iexact RDrsS0_14
  iintro ⟨CSrsS0_14, HO⟩
  sl_exec_parts (disch := simp only [dev45_eq, dev46_eq])
  iapply (wp_send_rs m K c 0 15 (by decide) grsS0_15 (W) (O + tallyAt (dmaCell (fwd c 15) rsR 0 15) () Nc) (O) rfl) $$ [TSrsS0_15 TDrsS0_15 SrcrsS0_15 DstrsS0_15 HO]
  · isplitr; · iexact ISrsS0_15
    isplitr; · iexact IDrsS0_15
    isplitl [SrcrsS0_15]; · iexact SrcrsS0_15
    isplitl [DstrsS0_15]; · iexact DstrsS0_15
    isplitl [HO]; · iexact HO
    isplitl [TSrsS0_15]; · iexact TSrsS0_15
    isplitr; · iexact RSrsS0_15
    isplitl [TDrsS0_15]; · iexact TDrsS0_15
    iexact RDrsS0_15
  iintro ⟨CSrsS0_15, HO⟩
  sl_exec_parts (disch := simp only [dev45_eq, dev46_eq])
  sl_step
  iapply Hk
  isplitl [ASrsS0_14 CSrsS0_14]
  · (try unfold recvRes)
    isplitr; · iexact ISrsS0_14
    isplitl [ASrsS0_14]; · iexact ASrsS0_14
    iexact CSrsS0_14
  isplitl [ASrsS0_15 CSrsS0_15]
  · (try unfold recvRes)
    isplitr; · iexact ISrsS0_15
    isplitl [ASrsS0_15]; · iexact ASrsS0_15
    iexact CSrsS0_15
  iexact HO

attribute [local sl_rounds] duties_dma amount_dma expect_dma in
set_option maxHeartbeats 4000000 in
theorem part14_spec (c : Dev nD) (v2 : BitVec 32) (O : CellTallies nD τ sig Unit) (W : Waits sig Unit) (Q : (BitVec 32) → sProp 𝕄) :
    iprop(copyRes m K rsS rsR c 0 16
      ∗ ((chunk accM (fwd c 16) 0).view.loc (c : Thread nD τ) ↦[(chunk accM (fwd c 16) 0).view.set]{fullShare} (chunk accM (fwd c 16) 0).view.rep (sent m c (fwd c 16) 0))
      ∗ (∃ f, ((slot 0 16).view.loc (fwd c 16 : Thread nD τ) ↦[(slot 0 16).view.set]{fullShare} f))
      ∗ copyRes m K rsS rsR c 0 17
      ∗ ((chunk accM (fwd c 17) 0).view.loc (c : Thread nD τ) ↦[(chunk accM (fwd c 17) 0).view.set]{fullShare} (chunk accM (fwd c 17) 0).view.rep (sent m c (fwd c 17) 0))
      ∗ (∃ f, ((slot 0 17).view.loc (fwd c 17 : Thread nD τ) ↦[(slot 0 17).view.set]{fullShare} f))
      ∗ copyRes m K rsS rsR c 0 18
      ∗ ((chunk accM (fwd c 18) 0).view.loc (c : Thread nD τ) ↦[(chunk accM (fwd c 18) 0).view.set]{fullShare} (chunk accM (fwd c 18) 0).view.rep (sent m c (fwd c 18) 0))
      ∗ (∃ f, ((slot 0 18).view.loc (fwd c 18 : Thread nD τ) ↦[(slot 0 18).view.set]{fullShare} f))
      ∗ owes (c : Thread nD τ) (O + tallyAt (dmaCell (fwd c 18) rsR 0 18) () Nc + tallyAt (dmaCell (fwd c 17) rsR 0 17) () Nc + tallyAt (dmaCell (fwd c 16) rsR 0 16) () Nc) W
      ∗ (∀ r, (recvRes m K rsS c 0 16
        ∗ recvRes m K rsS c 0 17
        ∗ recvRes m K rsS c 0 18
        ∗ owes (c : Thread nD τ) (O) (W)) -∗ Q r))
      ⊢ wp frame (wpE (defs₀ (F := F)) 𝒱₀ c none) Set.univ (k0_part14 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS0_16, TSrsS0_16, #RSrsS0_16, ASrsS0_16, #IDrsS0_16, TDrsS0_16, #RDrsS0_16⟩, SrcrsS0_16, ⟨%grsS0_16, DstrsS0_16⟩, ⟨#ISrsS0_17, TSrsS0_17, #RSrsS0_17, ASrsS0_17, #IDrsS0_17, TDrsS0_17, #RDrsS0_17⟩, SrcrsS0_17, ⟨%grsS0_17, DstrsS0_17⟩, ⟨#ISrsS0_18, TSrsS0_18, #RSrsS0_18, ASrsS0_18, #IDrsS0_18, TDrsS0_18, #RDrsS0_18⟩, SrcrsS0_18, ⟨%grsS0_18, DstrsS0_18⟩, HO, Hk⟩
  sl_exec_parts (disch := simp only [dev47_eq, dev48_eq, dev49_eq])
  iapply (wp_send_rs m K c 0 16 (by decide) grsS0_16 (W) (O + tallyAt (dmaCell (fwd c 18) rsR 0 18) () Nc + tallyAt (dmaCell (fwd c 17) rsR 0 17) () Nc + tallyAt (dmaCell (fwd c 16) rsR 0 16) () Nc) (O + tallyAt (dmaCell (fwd c 18) rsR 0 18) () Nc + tallyAt (dmaCell (fwd c 17) rsR 0 17) () Nc) rfl) $$ [TSrsS0_16 TDrsS0_16 SrcrsS0_16 DstrsS0_16 HO]
  · isplitr; · iexact ISrsS0_16
    isplitr; · iexact IDrsS0_16
    isplitl [SrcrsS0_16]; · iexact SrcrsS0_16
    isplitl [DstrsS0_16]; · iexact DstrsS0_16
    isplitl [HO]; · iexact HO
    isplitl [TSrsS0_16]; · iexact TSrsS0_16
    isplitr; · iexact RSrsS0_16
    isplitl [TDrsS0_16]; · iexact TDrsS0_16
    iexact RDrsS0_16
  iintro ⟨CSrsS0_16, HO⟩
  sl_exec_parts (disch := simp only [dev47_eq, dev48_eq, dev49_eq])
  iapply (wp_send_rs m K c 0 17 (by decide) grsS0_17 (W) (O + tallyAt (dmaCell (fwd c 18) rsR 0 18) () Nc + tallyAt (dmaCell (fwd c 17) rsR 0 17) () Nc) (O + tallyAt (dmaCell (fwd c 18) rsR 0 18) () Nc) rfl) $$ [TSrsS0_17 TDrsS0_17 SrcrsS0_17 DstrsS0_17 HO]
  · isplitr; · iexact ISrsS0_17
    isplitr; · iexact IDrsS0_17
    isplitl [SrcrsS0_17]; · iexact SrcrsS0_17
    isplitl [DstrsS0_17]; · iexact DstrsS0_17
    isplitl [HO]; · iexact HO
    isplitl [TSrsS0_17]; · iexact TSrsS0_17
    isplitr; · iexact RSrsS0_17
    isplitl [TDrsS0_17]; · iexact TDrsS0_17
    iexact RDrsS0_17
  iintro ⟨CSrsS0_17, HO⟩
  sl_exec_parts (disch := simp only [dev47_eq, dev48_eq, dev49_eq])
  iapply (wp_send_rs m K c 0 18 (by decide) grsS0_18 (W) (O + tallyAt (dmaCell (fwd c 18) rsR 0 18) () Nc) (O) rfl) $$ [TSrsS0_18 TDrsS0_18 SrcrsS0_18 DstrsS0_18 HO]
  · isplitr; · iexact ISrsS0_18
    isplitr; · iexact IDrsS0_18
    isplitl [SrcrsS0_18]; · iexact SrcrsS0_18
    isplitl [DstrsS0_18]; · iexact DstrsS0_18
    isplitl [HO]; · iexact HO
    isplitl [TSrsS0_18]; · iexact TSrsS0_18
    isplitr; · iexact RSrsS0_18
    isplitl [TDrsS0_18]; · iexact TDrsS0_18
    iexact RDrsS0_18
  iintro ⟨CSrsS0_18, HO⟩
  sl_exec_parts (disch := simp only [dev47_eq, dev48_eq, dev49_eq])
  sl_step
  iapply Hk
  isplitl [ASrsS0_16 CSrsS0_16]
  · (try unfold recvRes)
    isplitr; · iexact ISrsS0_16
    isplitl [ASrsS0_16]; · iexact ASrsS0_16
    iexact CSrsS0_16
  isplitl [ASrsS0_17 CSrsS0_17]
  · (try unfold recvRes)
    isplitr; · iexact ISrsS0_17
    isplitl [ASrsS0_17]; · iexact ASrsS0_17
    iexact CSrsS0_17
  isplitl [ASrsS0_18 CSrsS0_18]
  · (try unfold recvRes)
    isplitr; · iexact ISrsS0_18
    isplitl [ASrsS0_18]; · iexact ASrsS0_18
    iexact CSrsS0_18
  iexact HO

attribute [local sl_rounds] duties_dma amount_dma expect_dma in
set_option maxHeartbeats 4000000 in
theorem part15_spec (c : Dev nD) (v2 : BitVec 32) (c19_i32_388 : BitVec 32) (O : CellTallies nD τ sig Unit) (W : Waits sig Unit) (Q : (BitVec 32) → sProp 𝕄) :
    iprop(copyRes m K rsS rsR c 0 19
      ∗ ((chunk accM (fwd c 19) 0).view.loc (c : Thread nD τ) ↦[(chunk accM (fwd c 19) 0).view.set]{fullShare} (chunk accM (fwd c 19) 0).view.rep (sent m c (fwd c 19) 0))
      ∗ (∃ f, ((slot 0 19).view.loc (fwd c 19 : Thread nD τ) ↦[(slot 0 19).view.set]{fullShare} f))
      ∗ copyRes m K rsS rsR c 0 20
      ∗ ((chunk accM (fwd c 20) 0).view.loc (c : Thread nD τ) ↦[(chunk accM (fwd c 20) 0).view.set]{fullShare} (chunk accM (fwd c 20) 0).view.rep (sent m c (fwd c 20) 0))
      ∗ (∃ f, ((slot 0 20).view.loc (fwd c 20 : Thread nD τ) ↦[(slot 0 20).view.set]{fullShare} f))
      ∗ owes (c : Thread nD τ) (O + tallyAt (dmaCell (fwd c 20) rsR 0 20) () Nc + tallyAt (dmaCell (fwd c 19) rsR 0 19) () Nc) W
      ∗ (∀ r, (recvRes m K rsS c 0 19
        ∗ recvRes m K rsS c 0 20
        ∗ owes (c : Thread nD τ) (O) (W)) -∗ Q r))
      ⊢ wp frame (wpE (defs₀ (F := F)) 𝒱₀ c none) Set.univ (k0_part15 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 c19_i32_388) Q := by
  unfold copyRes
  iintro ⟨⟨#ISrsS0_19, TSrsS0_19, #RSrsS0_19, ASrsS0_19, #IDrsS0_19, TDrsS0_19, #RDrsS0_19⟩, SrcrsS0_19, ⟨%grsS0_19, DstrsS0_19⟩, ⟨#ISrsS0_20, TSrsS0_20, #RSrsS0_20, ASrsS0_20, #IDrsS0_20, TDrsS0_20, #RDrsS0_20⟩, SrcrsS0_20, ⟨%grsS0_20, DstrsS0_20⟩, HO, Hk⟩
  sl_exec_parts (disch := simp only [dev50_eq, dev51_eq])
  iapply (wp_send_rs m K c 0 19 (by decide) grsS0_19 (W) (O + tallyAt (dmaCell (fwd c 20) rsR 0 20) () Nc + tallyAt (dmaCell (fwd c 19) rsR 0 19) () Nc) (O + tallyAt (dmaCell (fwd c 20) rsR 0 20) () Nc) rfl) $$ [TSrsS0_19 TDrsS0_19 SrcrsS0_19 DstrsS0_19 HO]
  · isplitr; · iexact ISrsS0_19
    isplitr; · iexact IDrsS0_19
    isplitl [SrcrsS0_19]; · iexact SrcrsS0_19
    isplitl [DstrsS0_19]; · iexact DstrsS0_19
    isplitl [HO]; · iexact HO
    isplitl [TSrsS0_19]; · iexact TSrsS0_19
    isplitr; · iexact RSrsS0_19
    isplitl [TDrsS0_19]; · iexact TDrsS0_19
    iexact RDrsS0_19
  iintro ⟨CSrsS0_19, HO⟩
  sl_exec_parts (disch := simp only [dev50_eq, dev51_eq])
  iapply (wp_send_rs m K c 0 20 (by decide) grsS0_20 (W) (O + tallyAt (dmaCell (fwd c 20) rsR 0 20) () Nc) (O) rfl) $$ [TSrsS0_20 TDrsS0_20 SrcrsS0_20 DstrsS0_20 HO]
  · isplitr; · iexact ISrsS0_20
    isplitr; · iexact IDrsS0_20
    isplitl [SrcrsS0_20]; · iexact SrcrsS0_20
    isplitl [DstrsS0_20]; · iexact DstrsS0_20
    isplitl [HO]; · iexact HO
    isplitl [TSrsS0_20]; · iexact TSrsS0_20
    isplitr; · iexact RSrsS0_20
    isplitl [TDrsS0_20]; · iexact TDrsS0_20
    iexact RDrsS0_20
  iintro ⟨CSrsS0_20, HO⟩
  sl_exec_parts (disch := simp only [dev50_eq, dev51_eq])
  sl_step
  iapply Hk
  isplitl [ASrsS0_19 CSrsS0_19]
  · (try unfold recvRes)
    isplitr; · iexact ISrsS0_19
    isplitl [ASrsS0_19]; · iexact ASrsS0_19
    iexact CSrsS0_19
  isplitl [ASrsS0_20 CSrsS0_20]
  · (try unfold recvRes)
    isplitr; · iexact ISrsS0_20
    isplitl [ASrsS0_20]; · iexact ASrsS0_20
    iexact CSrsS0_20
  iexact HO

attribute [local sl_rounds] duties_dma amount_dma expect_dma in
set_option maxHeartbeats 4000000 in
theorem part16_spec (c : Dev nD) (v2 : BitVec 32) (v387 : BitVec 32) (O : CellTallies nD τ sig Unit) (W : Waits sig Unit) (Q : (Σ' (v411 : BitVec 32), BitVec 32) → sProp 𝕄) :
    iprop(copyRes m K rsS rsR c 0 21
      ∗ ((chunk accM (fwd c 21) 0).view.loc (c : Thread nD τ) ↦[(chunk accM (fwd c 21) 0).view.set]{fullShare} (chunk accM (fwd c 21) 0).view.rep (sent m c (fwd c 21) 0))
      ∗ (∃ f, ((slot 0 21).view.loc (fwd c 21 : Thread nD τ) ↦[(slot 0 21).view.set]{fullShare} f))
      ∗ copyRes m K rsS rsR c 0 22
      ∗ ((chunk accM (fwd c 22) 0).view.loc (c : Thread nD τ) ↦[(chunk accM (fwd c 22) 0).view.set]{fullShare} (chunk accM (fwd c 22) 0).view.rep (sent m c (fwd c 22) 0))
      ∗ (∃ f, ((slot 0 22).view.loc (fwd c 22 : Thread nD τ) ↦[(slot 0 22).view.set]{fullShare} f))
      ∗ owes (c : Thread nD τ) (O + tallyAt (dmaCell (fwd c 22) rsR 0 22) () Nc + tallyAt (dmaCell (fwd c 21) rsR 0 21) () Nc) W
      ∗ (∀ r, (recvRes m K rsS c 0 21
        ∗ recvRes m K rsS c 0 22
        ∗ owes (c : Thread nD τ) (O) (W)) -∗ Q r))
      ⊢ wp frame (wpE (defs₀ (F := F)) 𝒱₀ c none) Set.univ (k0_part16 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v387) Q := by
  unfold copyRes
  iintro ⟨⟨#ISrsS0_21, TSrsS0_21, #RSrsS0_21, ASrsS0_21, #IDrsS0_21, TDrsS0_21, #RDrsS0_21⟩, SrcrsS0_21, ⟨%grsS0_21, DstrsS0_21⟩, ⟨#ISrsS0_22, TSrsS0_22, #RSrsS0_22, ASrsS0_22, #IDrsS0_22, TDrsS0_22, #RDrsS0_22⟩, SrcrsS0_22, ⟨%grsS0_22, DstrsS0_22⟩, HO, Hk⟩
  sl_exec_parts (disch := simp only [dev52_eq, dev53_eq])
  iapply (wp_send_rs m K c 0 21 (by decide) grsS0_21 (W) (O + tallyAt (dmaCell (fwd c 22) rsR 0 22) () Nc + tallyAt (dmaCell (fwd c 21) rsR 0 21) () Nc) (O + tallyAt (dmaCell (fwd c 22) rsR 0 22) () Nc) rfl) $$ [TSrsS0_21 TDrsS0_21 SrcrsS0_21 DstrsS0_21 HO]
  · isplitr; · iexact ISrsS0_21
    isplitr; · iexact IDrsS0_21
    isplitl [SrcrsS0_21]; · iexact SrcrsS0_21
    isplitl [DstrsS0_21]; · iexact DstrsS0_21
    isplitl [HO]; · iexact HO
    isplitl [TSrsS0_21]; · iexact TSrsS0_21
    isplitr; · iexact RSrsS0_21
    isplitl [TDrsS0_21]; · iexact TDrsS0_21
    iexact RDrsS0_21
  iintro ⟨CSrsS0_21, HO⟩
  sl_exec_parts (disch := simp only [dev52_eq, dev53_eq])
  iapply (wp_send_rs m K c 0 22 (by decide) grsS0_22 (W) (O + tallyAt (dmaCell (fwd c 22) rsR 0 22) () Nc) (O) rfl) $$ [TSrsS0_22 TDrsS0_22 SrcrsS0_22 DstrsS0_22 HO]
  · isplitr; · iexact ISrsS0_22
    isplitr; · iexact IDrsS0_22
    isplitl [SrcrsS0_22]; · iexact SrcrsS0_22
    isplitl [DstrsS0_22]; · iexact DstrsS0_22
    isplitl [HO]; · iexact HO
    isplitl [TSrsS0_22]; · iexact TSrsS0_22
    isplitr; · iexact RSrsS0_22
    isplitl [TDrsS0_22]; · iexact TDrsS0_22
    iexact RDrsS0_22
  iintro ⟨CSrsS0_22, HO⟩
  sl_exec_parts (disch := simp only [dev52_eq, dev53_eq])
  sl_step
  iapply Hk
  isplitl [ASrsS0_21 CSrsS0_21]
  · (try unfold recvRes)
    isplitr; · iexact ISrsS0_21
    isplitl [ASrsS0_21]; · iexact ASrsS0_21
    iexact CSrsS0_21
  isplitl [ASrsS0_22 CSrsS0_22]
  · (try unfold recvRes)
    isplitr; · iexact ISrsS0_22
    isplitl [ASrsS0_22]; · iexact ASrsS0_22
    iexact CSrsS0_22
  iexact HO

attribute [local sl_rounds] duties_dma amount_dma expect_dma in
set_option maxHeartbeats 4000000 in
theorem part17_spec (c : Dev nD) (v2 : BitVec 32) (v411 : BitVec 32) (c1_i32_453 : BitVec 32) (O : CellTallies nD τ sig Unit) (W : Waits sig Unit) (Q : (PUnit) → sProp 𝕄) :
    iprop(copyRes m K rsS rsR c 0 23
      ∗ ((chunk accM (fwd c 23) 0).view.loc (c : Thread nD τ) ↦[(chunk accM (fwd c 23) 0).view.set]{fullShare} (chunk accM (fwd c 23) 0).view.rep (sent m c (fwd c 23) 0))
      ∗ (∃ f, ((slot 0 23).view.loc (fwd c 23 : Thread nD τ) ↦[(slot 0 23).view.set]{fullShare} f))
      ∗ copyRes m K rsS rsR c 0 24
      ∗ ((chunk accM (fwd c 24) 0).view.loc (c : Thread nD τ) ↦[(chunk accM (fwd c 24) 0).view.set]{fullShare} (chunk accM (fwd c 24) 0).view.rep (sent m c (fwd c 24) 0))
      ∗ (∃ f, ((slot 0 24).view.loc (fwd c 24 : Thread nD τ) ↦[(slot 0 24).view.set]{fullShare} f))
      ∗ owes (c : Thread nD τ) (O + tallyAt (dmaCell (fwd c 24) rsR 0 24) () Nc + tallyAt (dmaCell (fwd c 23) rsR 0 23) () Nc) W
      ∗ (∀ r, (recvRes m K rsS c 0 23
        ∗ recvRes m K rsS c 0 24
        ∗ owes (c : Thread nD τ) (O) (W)) -∗ Q r))
      ⊢ wp frame (wpE (defs₀ (F := F)) 𝒱₀ c none) Set.univ (k0_part17 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v411 c1_i32_453) Q := by
  unfold copyRes
  iintro ⟨⟨#ISrsS0_23, TSrsS0_23, #RSrsS0_23, ASrsS0_23, #IDrsS0_23, TDrsS0_23, #RDrsS0_23⟩, SrcrsS0_23, ⟨%grsS0_23, DstrsS0_23⟩, ⟨#ISrsS0_24, TSrsS0_24, #RSrsS0_24, ASrsS0_24, #IDrsS0_24, TDrsS0_24, #RDrsS0_24⟩, SrcrsS0_24, ⟨%grsS0_24, DstrsS0_24⟩, HO, Hk⟩
  sl_exec_parts (disch := simp only [dev54_eq, dev55_eq])
  iapply (wp_send_rs m K c 0 23 (by decide) grsS0_23 (W) (O + tallyAt (dmaCell (fwd c 24) rsR 0 24) () Nc + tallyAt (dmaCell (fwd c 23) rsR 0 23) () Nc) (O + tallyAt (dmaCell (fwd c 24) rsR 0 24) () Nc) rfl) $$ [TSrsS0_23 TDrsS0_23 SrcrsS0_23 DstrsS0_23 HO]
  · isplitr; · iexact ISrsS0_23
    isplitr; · iexact IDrsS0_23
    isplitl [SrcrsS0_23]; · iexact SrcrsS0_23
    isplitl [DstrsS0_23]; · iexact DstrsS0_23
    isplitl [HO]; · iexact HO
    isplitl [TSrsS0_23]; · iexact TSrsS0_23
    isplitr; · iexact RSrsS0_23
    isplitl [TDrsS0_23]; · iexact TDrsS0_23
    iexact RDrsS0_23
  iintro ⟨CSrsS0_23, HO⟩
  sl_exec_parts (disch := simp only [dev54_eq, dev55_eq])
  iapply (wp_send_rs m K c 0 24 (by decide) grsS0_24 (W) (O + tallyAt (dmaCell (fwd c 24) rsR 0 24) () Nc) (O) rfl) $$ [TSrsS0_24 TDrsS0_24 SrcrsS0_24 DstrsS0_24 HO]
  · isplitr; · iexact ISrsS0_24
    isplitr; · iexact IDrsS0_24
    isplitl [SrcrsS0_24]; · iexact SrcrsS0_24
    isplitl [DstrsS0_24]; · iexact DstrsS0_24
    isplitl [HO]; · iexact HO
    isplitl [TSrsS0_24]; · iexact TSrsS0_24
    isplitr; · iexact RSrsS0_24
    isplitl [TDrsS0_24]; · iexact TDrsS0_24
    iexact RDrsS0_24
  iintro ⟨CSrsS0_24, HO⟩
  sl_exec_parts (disch := simp only [dev54_eq, dev55_eq])
  sl_step
  iapply Hk
  isplitl [ASrsS0_23 CSrsS0_23]
  · (try unfold recvRes)
    isplitr; · iexact ISrsS0_23
    isplitl [ASrsS0_23]; · iexact ASrsS0_23
    iexact CSrsS0_23
  isplitl [ASrsS0_24 CSrsS0_24]
  · (try unfold recvRes)
    isplitr; · iexact ISrsS0_24
    isplitl [ASrsS0_24]; · iexact ASrsS0_24
    iexact CSrsS0_24
  iexact HO

attribute [local sl_rounds] duties_dma amount_dma expect_dma in
set_option maxHeartbeats 4000000 in
theorem part18_spec (c : Dev nD) (v2 : BitVec 32) (O : CellTallies nD τ sig Unit) (W : Waits sig Unit) (Q : (PUnit) → sProp 𝕄) :
    iprop(copyRes m K rsS rsR c 0 25
      ∗ ((chunk accM (fwd c 25) 0).view.loc (c : Thread nD τ) ↦[(chunk accM (fwd c 25) 0).view.set]{fullShare} (chunk accM (fwd c 25) 0).view.rep (sent m c (fwd c 25) 0))
      ∗ (∃ f, ((slot 0 25).view.loc (fwd c 25 : Thread nD τ) ↦[(slot 0 25).view.set]{fullShare} f))
      ∗ copyRes m K rsS rsR c 0 26
      ∗ ((chunk accM (fwd c 26) 0).view.loc (c : Thread nD τ) ↦[(chunk accM (fwd c 26) 0).view.set]{fullShare} (chunk accM (fwd c 26) 0).view.rep (sent m c (fwd c 26) 0))
      ∗ (∃ f, ((slot 0 26).view.loc (fwd c 26 : Thread nD τ) ↦[(slot 0 26).view.set]{fullShare} f))
      ∗ owes (c : Thread nD τ) (O + tallyAt (dmaCell (fwd c 26) rsR 0 26) () Nc + tallyAt (dmaCell (fwd c 25) rsR 0 25) () Nc) W
      ∗ (∀ r, (recvRes m K rsS c 0 25
        ∗ recvRes m K rsS c 0 26
        ∗ owes (c : Thread nD τ) (O) (W)) -∗ Q r))
      ⊢ wp frame (wpE (defs₀ (F := F)) 𝒱₀ c none) Set.univ (k0_part18 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS0_25, TSrsS0_25, #RSrsS0_25, ASrsS0_25, #IDrsS0_25, TDrsS0_25, #RDrsS0_25⟩, SrcrsS0_25, ⟨%grsS0_25, DstrsS0_25⟩, ⟨#ISrsS0_26, TSrsS0_26, #RSrsS0_26, ASrsS0_26, #IDrsS0_26, TDrsS0_26, #RDrsS0_26⟩, SrcrsS0_26, ⟨%grsS0_26, DstrsS0_26⟩, HO, Hk⟩
  sl_exec_parts (disch := simp only [dev56_eq, dev57_eq])
  iapply (wp_send_rs m K c 0 25 (by decide) grsS0_25 (W) (O + tallyAt (dmaCell (fwd c 26) rsR 0 26) () Nc + tallyAt (dmaCell (fwd c 25) rsR 0 25) () Nc) (O + tallyAt (dmaCell (fwd c 26) rsR 0 26) () Nc) rfl) $$ [TSrsS0_25 TDrsS0_25 SrcrsS0_25 DstrsS0_25 HO]
  · isplitr; · iexact ISrsS0_25
    isplitr; · iexact IDrsS0_25
    isplitl [SrcrsS0_25]; · iexact SrcrsS0_25
    isplitl [DstrsS0_25]; · iexact DstrsS0_25
    isplitl [HO]; · iexact HO
    isplitl [TSrsS0_25]; · iexact TSrsS0_25
    isplitr; · iexact RSrsS0_25
    isplitl [TDrsS0_25]; · iexact TDrsS0_25
    iexact RDrsS0_25
  iintro ⟨CSrsS0_25, HO⟩
  sl_exec_parts (disch := simp only [dev56_eq, dev57_eq])
  iapply (wp_send_rs m K c 0 26 (by decide) grsS0_26 (W) (O + tallyAt (dmaCell (fwd c 26) rsR 0 26) () Nc) (O) rfl) $$ [TSrsS0_26 TDrsS0_26 SrcrsS0_26 DstrsS0_26 HO]
  · isplitr; · iexact ISrsS0_26
    isplitr; · iexact IDrsS0_26
    isplitl [SrcrsS0_26]; · iexact SrcrsS0_26
    isplitl [DstrsS0_26]; · iexact DstrsS0_26
    isplitl [HO]; · iexact HO
    isplitl [TSrsS0_26]; · iexact TSrsS0_26
    isplitr; · iexact RSrsS0_26
    isplitl [TDrsS0_26]; · iexact TDrsS0_26
    iexact RDrsS0_26
  iintro ⟨CSrsS0_26, HO⟩
  sl_exec_parts (disch := simp only [dev56_eq, dev57_eq])
  sl_step
  iapply Hk
  isplitl [ASrsS0_25 CSrsS0_25]
  · (try unfold recvRes)
    isplitr; · iexact ISrsS0_25
    isplitl [ASrsS0_25]; · iexact ASrsS0_25
    iexact CSrsS0_25
  isplitl [ASrsS0_26 CSrsS0_26]
  · (try unfold recvRes)
    isplitr; · iexact ISrsS0_26
    isplitl [ASrsS0_26]; · iexact ASrsS0_26
    iexact CSrsS0_26
  iexact HO

attribute [local sl_rounds] duties_dma amount_dma expect_dma in
set_option maxHeartbeats 4000000 in
theorem part19_spec (c : Dev nD) (v2 : BitVec 32) (O : CellTallies nD τ sig Unit) (W : Waits sig Unit) (Q : (BitVec 32) → sProp 𝕄) :
    iprop(copyRes m K rsS rsR c 0 27
      ∗ ((chunk accM (fwd c 27) 0).view.loc (c : Thread nD τ) ↦[(chunk accM (fwd c 27) 0).view.set]{fullShare} (chunk accM (fwd c 27) 0).view.rep (sent m c (fwd c 27) 0))
      ∗ (∃ f, ((slot 0 27).view.loc (fwd c 27 : Thread nD τ) ↦[(slot 0 27).view.set]{fullShare} f))
      ∗ copyRes m K rsS rsR c 0 28
      ∗ ((chunk accM (fwd c 28) 0).view.loc (c : Thread nD τ) ↦[(chunk accM (fwd c 28) 0).view.set]{fullShare} (chunk accM (fwd c 28) 0).view.rep (sent m c (fwd c 28) 0))
      ∗ (∃ f, ((slot 0 28).view.loc (fwd c 28 : Thread nD τ) ↦[(slot 0 28).view.set]{fullShare} f))
      ∗ copyRes m K rsS rsR c 0 29
      ∗ ((chunk accM (fwd c 29) 0).view.loc (c : Thread nD τ) ↦[(chunk accM (fwd c 29) 0).view.set]{fullShare} (chunk accM (fwd c 29) 0).view.rep (sent m c (fwd c 29) 0))
      ∗ (∃ f, ((slot 0 29).view.loc (fwd c 29 : Thread nD τ) ↦[(slot 0 29).view.set]{fullShare} f))
      ∗ owes (c : Thread nD τ) (O + tallyAt (dmaCell (fwd c 29) rsR 0 29) () Nc + tallyAt (dmaCell (fwd c 28) rsR 0 28) () Nc + tallyAt (dmaCell (fwd c 27) rsR 0 27) () Nc) W
      ∗ (∀ r, (recvRes m K rsS c 0 27
        ∗ recvRes m K rsS c 0 28
        ∗ recvRes m K rsS c 0 29
        ∗ owes (c : Thread nD τ) (O) (W)) -∗ Q r))
      ⊢ wp frame (wpE (defs₀ (F := F)) 𝒱₀ c none) Set.univ (k0_part19 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS0_27, TSrsS0_27, #RSrsS0_27, ASrsS0_27, #IDrsS0_27, TDrsS0_27, #RDrsS0_27⟩, SrcrsS0_27, ⟨%grsS0_27, DstrsS0_27⟩, ⟨#ISrsS0_28, TSrsS0_28, #RSrsS0_28, ASrsS0_28, #IDrsS0_28, TDrsS0_28, #RDrsS0_28⟩, SrcrsS0_28, ⟨%grsS0_28, DstrsS0_28⟩, ⟨#ISrsS0_29, TSrsS0_29, #RSrsS0_29, ASrsS0_29, #IDrsS0_29, TDrsS0_29, #RDrsS0_29⟩, SrcrsS0_29, ⟨%grsS0_29, DstrsS0_29⟩, HO, Hk⟩
  sl_exec_parts (disch := simp only [dev58_eq, dev59_eq, dev60_eq])
  iapply (wp_send_rs m K c 0 27 (by decide) grsS0_27 (W) (O + tallyAt (dmaCell (fwd c 29) rsR 0 29) () Nc + tallyAt (dmaCell (fwd c 28) rsR 0 28) () Nc + tallyAt (dmaCell (fwd c 27) rsR 0 27) () Nc) (O + tallyAt (dmaCell (fwd c 29) rsR 0 29) () Nc + tallyAt (dmaCell (fwd c 28) rsR 0 28) () Nc) rfl) $$ [TSrsS0_27 TDrsS0_27 SrcrsS0_27 DstrsS0_27 HO]
  · isplitr; · iexact ISrsS0_27
    isplitr; · iexact IDrsS0_27
    isplitl [SrcrsS0_27]; · iexact SrcrsS0_27
    isplitl [DstrsS0_27]; · iexact DstrsS0_27
    isplitl [HO]; · iexact HO
    isplitl [TSrsS0_27]; · iexact TSrsS0_27
    isplitr; · iexact RSrsS0_27
    isplitl [TDrsS0_27]; · iexact TDrsS0_27
    iexact RDrsS0_27
  iintro ⟨CSrsS0_27, HO⟩
  sl_exec_parts (disch := simp only [dev58_eq, dev59_eq, dev60_eq])
  iapply (wp_send_rs m K c 0 28 (by decide) grsS0_28 (W) (O + tallyAt (dmaCell (fwd c 29) rsR 0 29) () Nc + tallyAt (dmaCell (fwd c 28) rsR 0 28) () Nc) (O + tallyAt (dmaCell (fwd c 29) rsR 0 29) () Nc) rfl) $$ [TSrsS0_28 TDrsS0_28 SrcrsS0_28 DstrsS0_28 HO]
  · isplitr; · iexact ISrsS0_28
    isplitr; · iexact IDrsS0_28
    isplitl [SrcrsS0_28]; · iexact SrcrsS0_28
    isplitl [DstrsS0_28]; · iexact DstrsS0_28
    isplitl [HO]; · iexact HO
    isplitl [TSrsS0_28]; · iexact TSrsS0_28
    isplitr; · iexact RSrsS0_28
    isplitl [TDrsS0_28]; · iexact TDrsS0_28
    iexact RDrsS0_28
  iintro ⟨CSrsS0_28, HO⟩
  sl_exec_parts (disch := simp only [dev58_eq, dev59_eq, dev60_eq])
  iapply (wp_send_rs m K c 0 29 (by decide) grsS0_29 (W) (O + tallyAt (dmaCell (fwd c 29) rsR 0 29) () Nc) (O) rfl) $$ [TSrsS0_29 TDrsS0_29 SrcrsS0_29 DstrsS0_29 HO]
  · isplitr; · iexact ISrsS0_29
    isplitr; · iexact IDrsS0_29
    isplitl [SrcrsS0_29]; · iexact SrcrsS0_29
    isplitl [DstrsS0_29]; · iexact DstrsS0_29
    isplitl [HO]; · iexact HO
    isplitl [TSrsS0_29]; · iexact TSrsS0_29
    isplitr; · iexact RSrsS0_29
    isplitl [TDrsS0_29]; · iexact TDrsS0_29
    iexact RDrsS0_29
  iintro ⟨CSrsS0_29, HO⟩
  sl_exec_parts (disch := simp only [dev58_eq, dev59_eq, dev60_eq])
  sl_step
  iapply Hk
  isplitl [ASrsS0_27 CSrsS0_27]
  · (try unfold recvRes)
    isplitr; · iexact ISrsS0_27
    isplitl [ASrsS0_27]; · iexact ASrsS0_27
    iexact CSrsS0_27
  isplitl [ASrsS0_28 CSrsS0_28]
  · (try unfold recvRes)
    isplitr; · iexact ISrsS0_28
    isplitl [ASrsS0_28]; · iexact ASrsS0_28
    iexact CSrsS0_28
  isplitl [ASrsS0_29 CSrsS0_29]
  · (try unfold recvRes)
    isplitr; · iexact ISrsS0_29
    isplitl [ASrsS0_29]; · iexact ASrsS0_29
    iexact CSrsS0_29
  iexact HO

end Cert.Kernel.AllReduce

end
-- ==== Proof.Word.BodyCopiesB.lean ====
/-
  The copies of the reduce phase, half 1 (and the first receive wait of half 0).
  One statement per printed part of the kernel body, over the resources that part touches and nothing else.
-/
import proofs.«900438_g7700000000000439_dist_gemm_ar_m1024_k1024_n1024_f32_gelu_v7x_i32_1_alg».proof.Proof.Word.BodyTables
noncomputable section
namespace Cert.Kernel.AllReduce
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma in
set_option maxHeartbeats 4000000 in
theorem part22_spec (c : Dev nD) (v2 : BitVec 32) (O : CellTallies nD τ sig Unit) (W : Waits sig Unit) (Q : (PUnit) → sProp 𝕄) :
    iprop(copyRes m K rsS rsR c 1 2
      ∗ ((chunk accM (fwd c 2) 1).view.loc (c : Thread nD τ) ↦[(chunk accM (fwd c 2) 1).view.set]{fullShare} (chunk accM (fwd c 2) 1).view.rep (sent m c (fwd c 2) 1))
      ∗ (∃ f, ((slot 1 2).view.loc (fwd c 2 : Thread nD τ) ↦[(slot 1 2).view.set]{fullShare} f))
      ∗ copyRes m K rsS rsR c 1 3
      ∗ ((chunk accM (fwd c 3) 1).view.loc (c : Thread nD τ) ↦[(chunk accM (fwd c 3) 1).view.set]{fullShare} (chunk accM (fwd c 3) 1).view.rep (sent m c (fwd c 3) 1))
      ∗ (∃ f, ((slot 1 3).view.loc (fwd c 3 : Thread nD τ) ↦[(slot 1 3).view.set]{fullShare} f))
      ∗ owes (c : Thread nD τ) (O + tallyAt (dmaCell (fwd c 3) rsR 1 3) () Nc + tallyAt (dmaCell (fwd c 2) rsR 1 2) () Nc) W
      ∗ (∀ r, (recvRes m K rsS c 1 2
        ∗ recvRes m K rsS c 1 3
        ∗ owes (c : Thread nD τ) (O) (W)) -∗ Q r))
      ⊢ wp frame (wpE (defs₀ (F := F)) 𝒱₀ c none) Set.univ (k0_part22 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS1_2, TSrsS1_2, #RSrsS1_2, ASrsS1_2, #IDrsS1_2, TDrsS1_2, #RDrsS1_2⟩, SrcrsS1_2, ⟨%grsS1_2, DstrsS1_2⟩, ⟨#ISrsS1_3, TSrsS1_3, #RSrsS1_3, ASrsS1_3, #IDrsS1_3, TDrsS1_3, #RDrsS1_3⟩, SrcrsS1_3, ⟨%grsS1_3, DstrsS1_3⟩, HO, Hk⟩
  sl_exec_parts (disch := simp only [dev64_eq, dev65_eq])
  iapply (wp_send_rs m K c 1 2 (by decide) grsS1_2 (W) (O + tallyAt (dmaCell (fwd c 3) rsR 1 3) () Nc + tallyAt (dmaCell (fwd c 2) rsR 1 2) () Nc) (O + tallyAt (dmaCell (fwd c 3) rsR 1 3) () Nc) rfl) $$ [TSrsS1_2 TDrsS1_2 SrcrsS1_2 DstrsS1_2 HO]
  · isplitr; · iexact ISrsS1_2
    isplitr; · iexact IDrsS1_2
    isplitl [SrcrsS1_2]; · iexact SrcrsS1_2
    isplitl [DstrsS1_2]; · iexact DstrsS1_2
    isplitl [HO]; · iexact HO
    isplitl [TSrsS1_2]; · iexact TSrsS1_2
    isplitr; · iexact RSrsS1_2
    isplitl [TDrsS1_2]; · iexact TDrsS1_2
    iexact RDrsS1_2
  iintro ⟨CSrsS1_2, HO⟩
  sl_exec_parts (disch := simp only [dev64_eq, dev65_eq])
  iapply (wp_send_rs m K c 1 3 (by decide) grsS1_3 (W) (O + tallyAt (dmaCell (fwd c 3) rsR 1 3) () Nc) (O) rfl) $$ [TSrsS1_3 TDrsS1_3 SrcrsS1_3 DstrsS1_3 HO]
  · isplitr; · iexact ISrsS1_3
    isplitr; · iexact IDrsS1_3
    isplitl [SrcrsS1_3]; · iexact SrcrsS1_3
    isplitl [DstrsS1_3]; · iexact DstrsS1_3
    isplitl [HO]; · iexact HO
    isplitl [TSrsS1_3]; · iexact TSrsS1_3
    isplitr; · iexact RSrsS1_3
    isplitl [TDrsS1_3]; · iexact TDrsS1_3
    iexact RDrsS1_3
  iintro ⟨CSrsS1_3, HO⟩
  sl_exec_parts (disch := simp only [dev64_eq, dev65_eq])
  sl_step
  iapply Hk
  isplitl [ASrsS1_2 CSrsS1_2]
  · (try unfold recvRes)
    isplitr; · iexact ISrsS1_2
    isplitl [ASrsS1_2]; · iexact ASrsS1_2
    iexact CSrsS1_2
  isplitl [ASrsS1_3 CSrsS1_3]
  · (try unfold recvRes)
    isplitr; · iexact ISrsS1_3
    isplitl [ASrsS1_3]; · iexact ASrsS1_3
    iexact CSrsS1_3
  iexact HO

attribute [local sl_rounds] duties_dma amount_dma expect_dma in
set_option maxHeartbeats 4000000 in
theorem part23_spec (c : Dev nD) (v2 : BitVec 32) (O : CellTallies nD τ sig Unit) (W : Waits sig Unit) (Q : (Σ' (v603 : BitVec 32), BitVec 32) → sProp 𝕄) :
    iprop(copyRes m K rsS rsR c 1 4
      ∗ ((chunk accM (fwd c 4) 1).view.loc (c : Thread nD τ) ↦[(chunk accM (fwd c 4) 1).view.set]{fullShare} (chunk accM (fwd c 4) 1).view.rep (sent m c (fwd c 4) 1))
      ∗ (∃ f, ((slot 1 4).view.loc (fwd c 4 : Thread nD τ) ↦[(slot 1 4).view.set]{fullShare} f))
      ∗ copyRes m K rsS rsR c 1 5
      ∗ ((chunk accM (fwd c 5) 1).view.loc (c : Thread nD τ) ↦[(chunk accM (fwd c 5) 1).view.set]{fullShare} (chunk accM (fwd c 5) 1).view.rep (sent m c (fwd c 5) 1))
      ∗ (∃ f, ((slot 1 5).view.loc (fwd c 5 : Thread nD τ) ↦[(slot 1 5).view.set]{fullShare} f))
      ∗ copyRes m K rsS rsR c 1 6
      ∗ ((chunk accM (fwd c 6) 1).view.loc (c : Thread nD τ) ↦[(chunk accM (fwd c 6) 1).view.set]{fullShare} (chunk accM (fwd c 6) 1).view.rep (sent m c (fwd c 6) 1))
      ∗ (∃ f, ((slot 1 6).view.loc (fwd c 6 : Thread nD τ) ↦[(slot 1 6).view.set]{fullShare} f))
      ∗ owes (c : Thread nD τ) (O + tallyAt (dmaCell (fwd c 6) rsR 1 6) () Nc + tallyAt (dmaCell (fwd c 5) rsR 1 5) () Nc + tallyAt (dmaCell (fwd c 4) rsR 1 4) () Nc) W
      ∗ (∀ r, (recvRes m K rsS c 1 4
        ∗ recvRes m K rsS c 1 5
        ∗ recvRes m K rsS c 1 6
        ∗ owes (c : Thread nD τ) (O) (W)) -∗ Q r))
      ⊢ wp frame (wpE (defs₀ (F := F)) 𝒱₀ c none) Set.univ (k0_part23 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS1_4, TSrsS1_4, #RSrsS1_4, ASrsS1_4, #IDrsS1_4, TDrsS1_4, #RDrsS1_4⟩, SrcrsS1_4, ⟨%grsS1_4, DstrsS1_4⟩, ⟨#ISrsS1_5, TSrsS1_5, #RSrsS1_5, ASrsS1_5, #IDrsS1_5, TDrsS1_5, #RDrsS1_5⟩, SrcrsS1_5, ⟨%grsS1_5, DstrsS1_5⟩, ⟨#ISrsS1_6, TSrsS1_6, #RSrsS1_6, ASrsS1_6, #IDrsS1_6, TDrsS1_6, #RDrsS1_6⟩, SrcrsS1_6, ⟨%grsS1_6, DstrsS1_6⟩, HO, Hk⟩
  sl_exec_parts (disch := simp only [dev66_eq, dev67_eq, dev68_eq])
  iapply (wp_send_rs m K c 1 4 (by decide) grsS1_4 (W) (O + tallyAt (dmaCell (fwd c 6) rsR 1 6) () Nc + tallyAt (dmaCell (fwd c 5) rsR 1 5) () Nc + tallyAt (dmaCell (fwd c 4) rsR 1 4) () Nc) (O + tallyAt (dmaCell (fwd c 6) rsR 1 6) () Nc + tallyAt (dmaCell (fwd c 5) rsR 1 5) () Nc) rfl) $$ [TSrsS1_4 TDrsS1_4 SrcrsS1_4 DstrsS1_4 HO]
  · isplitr; · iexact ISrsS1_4
    isplitr; · iexact IDrsS1_4
    isplitl [SrcrsS1_4]; · iexact SrcrsS1_4
    isplitl [DstrsS1_4]; · iexact DstrsS1_4
    isplitl [HO]; · iexact HO
    isplitl [TSrsS1_4]; · iexact TSrsS1_4
    isplitr; · iexact RSrsS1_4
    isplitl [TDrsS1_4]; · iexact TDrsS1_4
    iexact RDrsS1_4
  iintro ⟨CSrsS1_4, HO⟩
  sl_exec_parts (disch := simp only [dev66_eq, dev67_eq, dev68_eq])
  iapply (wp_send_rs m K c 1 5 (by decide) grsS1_5 (W) (O + tallyAt (dmaCell (fwd c 6) rsR 1 6) () Nc + tallyAt (dmaCell (fwd c 5) rsR 1 5) () Nc) (O + tallyAt (dmaCell (fwd c 6) rsR 1 6) () Nc) rfl) $$ [TSrsS1_5 TDrsS1_5 SrcrsS1_5 DstrsS1_5 HO]
  · isplitr; · iexact ISrsS1_5
    isplitr; · iexact IDrsS1_5
    isplitl [SrcrsS1_5]; · iexact SrcrsS1_5
    isplitl [DstrsS1_5]; · iexact DstrsS1_5
    isplitl [HO]; · iexact HO
    isplitl [TSrsS1_5]; · iexact TSrsS1_5
    isplitr; · iexact RSrsS1_5
    isplitl [TDrsS1_5]; · iexact TDrsS1_5
    iexact RDrsS1_5
  iintro ⟨CSrsS1_5, HO⟩
  sl_exec_parts (disch := simp only [dev66_eq, dev67_eq, dev68_eq])
  iapply (wp_send_rs m K c 1 6 (by decide) grsS1_6 (W) (O + tallyAt (dmaCell (fwd c 6) rsR 1 6) () Nc) (O) rfl) $$ [TSrsS1_6 TDrsS1_6 SrcrsS1_6 DstrsS1_6 HO]
  · isplitr; · iexact ISrsS1_6
    isplitr; · iexact IDrsS1_6
    isplitl [SrcrsS1_6]; · iexact SrcrsS1_6
    isplitl [DstrsS1_6]; · iexact DstrsS1_6
    isplitl [HO]; · iexact HO
    isplitl [TSrsS1_6]; · iexact TSrsS1_6
    isplitr; · iexact RSrsS1_6
    isplitl [TDrsS1_6]; · iexact TDrsS1_6
    iexact RDrsS1_6
  iintro ⟨CSrsS1_6, HO⟩
  sl_exec_parts (disch := simp only [dev66_eq, dev67_eq, dev68_eq])
  sl_step
  iapply Hk
  isplitl [ASrsS1_4 CSrsS1_4]
  · (try unfold recvRes)
    isplitr; · iexact ISrsS1_4
    isplitl [ASrsS1_4]; · iexact ASrsS1_4
    iexact CSrsS1_4
  isplitl [ASrsS1_5 CSrsS1_5]
  · (try unfold recvRes)
    isplitr; · iexact ISrsS1_5
    isplitl [ASrsS1_5]; · iexact ASrsS1_5
    iexact CSrsS1_5
  isplitl [ASrsS1_6 CSrsS1_6]
  · (try unfold recvRes)
    isplitr; · iexact ISrsS1_6
    isplitl [ASrsS1_6]; · iexact ASrsS1_6
    iexact CSrsS1_6
  iexact HO

attribute [local sl_rounds] duties_dma amount_dma expect_dma in
set_option maxHeartbeats 4000000 in
theorem part24_spec (c : Dev nD) (v2 : BitVec 32) (v603 : BitVec 32) (c32_i32_662 : BitVec 32) (O : CellTallies nD τ sig Unit) (W : Waits sig Unit) (Q : (BitVec 32) → sProp 𝕄) :
    iprop(copyRes m K rsS rsR c 1 7
      ∗ ((chunk accM (fwd c 7) 1).view.loc (c : Thread nD τ) ↦[(chunk accM (fwd c 7) 1).view.set]{fullShare} (chunk accM (fwd c 7) 1).view.rep (sent m c (fwd c 7) 1))
      ∗ (∃ f, ((slot 1 7).view.loc (fwd c 7 : Thread nD τ) ↦[(slot 1 7).view.set]{fullShare} f))
      ∗ copyRes m K rsS rsR c 1 8
      ∗ ((chunk accM (fwd c 8) 1).view.loc (c : Thread nD τ) ↦[(chunk accM (fwd c 8) 1).view.set]{fullShare} (chunk accM (fwd c 8) 1).view.rep (sent m c (fwd c 8) 1))
      ∗ (∃ f, ((slot 1 8).view.loc (fwd c 8 : Thread nD τ) ↦[(slot 1 8).view.set]{fullShare} f))
      ∗ owes (c : Thread nD τ) (O + tallyAt (dmaCell (fwd c 8) rsR 1 8) () Nc + tallyAt (dmaCell (fwd c 7) rsR 1 7) () Nc) W
      ∗ (∀ r, (recvRes m K rsS c 1 7
        ∗ recvRes m K rsS c 1 8
        ∗ owes (c : Thread nD τ) (O) (W)) -∗ Q r))
      ⊢ wp frame (wpE (defs₀ (F := F)) 𝒱₀ c none) Set.univ (k0_part24 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v603 c32_i32_662) Q := by
  unfold copyRes
  iintro ⟨⟨#ISrsS1_7, TSrsS1_7, #RSrsS1_7, ASrsS1_7, #IDrsS1_7, TDrsS1_7, #RDrsS1_7⟩, SrcrsS1_7, ⟨%grsS1_7, DstrsS1_7⟩, ⟨#ISrsS1_8, TSrsS1_8, #RSrsS1_8, ASrsS1_8, #IDrsS1_8, TDrsS1_8, #RDrsS1_8⟩, SrcrsS1_8, ⟨%grsS1_8, DstrsS1_8⟩, HO, Hk⟩
  sl_exec_parts (disch := simp only [dev69_eq, dev70_eq])
  iapply (wp_send_rs m K c 1 7 (by decide) grsS1_7 (W) (O + tallyAt (dmaCell (fwd c 8) rsR 1 8) () Nc + tallyAt (dmaCell (fwd c 7) rsR 1 7) () Nc) (O + tallyAt (dmaCell (fwd c 8) rsR 1 8) () Nc) rfl) $$ [TSrsS1_7 TDrsS1_7 SrcrsS1_7 DstrsS1_7 HO]
  · isplitr; · iexact ISrsS1_7
    isplitr; · iexact IDrsS1_7
    isplitl [SrcrsS1_7]; · iexact SrcrsS1_7
    isplitl [DstrsS1_7]; · iexact DstrsS1_7
    isplitl [HO]; · iexact HO
    isplitl [TSrsS1_7]; · iexact TSrsS1_7
    isplitr; · iexact RSrsS1_7
    isplitl [TDrsS1_7]; · iexact TDrsS1_7
    iexact RDrsS1_7
  iintro ⟨CSrsS1_7, HO⟩
  sl_exec_parts (disch := simp only [dev69_eq, dev70_eq])
  iapply (wp_send_rs m K c 1 8 (by decide) grsS1_8 (W) (O + tallyAt (dmaCell (fwd c 8) rsR 1 8) () Nc) (O) rfl) $$ [TSrsS1_8 TDrsS1_8 SrcrsS1_8 DstrsS1_8 HO]
  · isplitr; · iexact ISrsS1_8
    isplitr; · iexact IDrsS1_8
    isplitl [SrcrsS1_8]; · iexact SrcrsS1_8
    isplitl [DstrsS1_8]; · iexact DstrsS1_8
    isplitl [HO]; · iexact HO
    isplitl [TSrsS1_8]; · iexact TSrsS1_8
    isplitr; · iexact RSrsS1_8
    isplitl [TDrsS1_8]; · iexact TDrsS1_8
    iexact RDrsS1_8
  iintro ⟨CSrsS1_8, HO⟩
  sl_exec_parts (disch := simp only [dev69_eq, dev70_eq])
  sl_step
  iapply Hk
  isplitl [ASrsS1_7 CSrsS1_7]
  · (try unfold recvRes)
    isplitr; · iexact ISrsS1_7
    isplitl [ASrsS1_7]; · iexact ASrsS1_7
    iexact CSrsS1_7
  isplitl [ASrsS1_8 CSrsS1_8]
  · (try unfold recvRes)
    isplitr; · iexact ISrsS1_8
    isplitl [ASrsS1_8]; · iexact ASrsS1_8
    iexact CSrsS1_8
  iexact HO

attribute [local sl_rounds] duties_dma amount_dma expect_dma in
set_option maxHeartbeats 4000000 in
theorem part25_spec (c : Dev nD) (v2 : BitVec 32) (v627 : BitVec 32) (O : CellTallies nD τ sig Unit) (W : Waits sig Unit) (Q : (PUnit) → sProp 𝕄) :
    iprop(copyRes m K rsS rsR c 1 9
      ∗ ((chunk accM (fwd c 9) 1).view.loc (c : Thread nD τ) ↦[(chunk accM (fwd c 9) 1).view.set]{fullShare} (chunk accM (fwd c 9) 1).view.rep (sent m c (fwd c 9) 1))
      ∗ (∃ f, ((slot 1 9).view.loc (fwd c 9 : Thread nD τ) ↦[(slot 1 9).view.set]{fullShare} f))
      ∗ copyRes m K rsS rsR c 1 10
      ∗ ((chunk accM (fwd c 10) 1).view.loc (c : Thread nD τ) ↦[(chunk accM (fwd c 10) 1).view.set]{fullShare} (chunk accM (fwd c 10) 1).view.rep (sent m c (fwd c 10) 1))
      ∗ (∃ f, ((slot 1 10).view.loc (fwd c 10 : Thread nD τ) ↦[(slot 1 10).view.set]{fullShare} f))
      ∗ owes (c : Thread nD τ) (O + tallyAt (dmaCell (fwd c 10) rsR 1 10) () Nc + tallyAt (dmaCell (fwd c 9) rsR 1 9) () Nc) W
      ∗ (∀ r, (recvRes m K rsS c 1 9
        ∗ recvRes m K rsS c 1 10
        ∗ owes (c : Thread nD τ) (O) (W)) -∗ Q r))
      ⊢ wp frame (wpE (defs₀ (F := F)) 𝒱₀ c none) Set.univ (k0_part25 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v627) Q := by
  unfold copyRes
  iintro ⟨⟨#ISrsS1_9, TSrsS1_9, #RSrsS1_9, ASrsS1_9, #IDrsS1_9, TDrsS1_9, #RDrsS1_9⟩, SrcrsS1_9, ⟨%grsS1_9, DstrsS1_9⟩, ⟨#ISrsS1_10, TSrsS1_10, #RSrsS1_10, ASrsS1_10, #IDrsS1_10, TDrsS1_10, #RDrsS1_10⟩, SrcrsS1_10, ⟨%grsS1_10, DstrsS1_10⟩, HO, Hk⟩
  sl_exec_parts (disch := simp only [dev71_eq, dev72_eq])
  iapply (wp_send_rs m K c 1 9 (by decide) grsS1_9 (W) (O + tallyAt (dmaCell (fwd c 10) rsR 1 10) () Nc + tallyAt (dmaCell (fwd c 9) rsR 1 9) () Nc) (O + tallyAt (dmaCell (fwd c 10) rsR 1 10) () Nc) rfl) $$ [TSrsS1_9 TDrsS1_9 SrcrsS1_9 DstrsS1_9 HO]
  · isplitr; · iexact ISrsS1_9
    isplitr; · iexact IDrsS1_9
    isplitl [SrcrsS1_9]; · iexact SrcrsS1_9
    isplitl [DstrsS1_9]; · iexact DstrsS1_9
    isplitl [HO]; · iexact HO
    isplitl [TSrsS1_9]; · iexact TSrsS1_9
    isplitr; · iexact RSrsS1_9
    isplitl [TDrsS1_9]; · iexact TDrsS1_9
    iexact RDrsS1_9
  iintro ⟨CSrsS1_9, HO⟩
  sl_exec_parts (disch := simp only [dev71_eq, dev72_eq])
  iapply (wp_send_rs m K c 1 10 (by decide) grsS1_10 (W) (O + tallyAt (dmaCell (fwd c 10) rsR 1 10) () Nc) (O) rfl) $$ [TSrsS1_10 TDrsS1_10 SrcrsS1_10 DstrsS1_10 HO]
  · isplitr; · iexact ISrsS1_10
    isplitr; · iexact IDrsS1_10
    isplitl [SrcrsS1_10]; · iexact SrcrsS1_10
    isplitl [DstrsS1_10]; · iexact DstrsS1_10
    isplitl [HO]; · iexact HO
    isplitl [TSrsS1_10]; · iexact TSrsS1_10
    isplitr; · iexact RSrsS1_10
    isplitl [TDrsS1_10]; · iexact TDrsS1_10
    iexact RDrsS1_10
  iintro ⟨CSrsS1_10, HO⟩
  sl_exec_parts (disch := simp only [dev71_eq, dev72_eq])
  sl_step
  iapply Hk
  isplitl [ASrsS1_9 CSrsS1_9]
  · (try unfold recvRes)
    isplitr; · iexact ISrsS1_9
    isplitl [ASrsS1_9]; · iexact ASrsS1_9
    iexact CSrsS1_9
  isplitl [ASrsS1_10 CSrsS1_10]
  · (try unfold recvRes)
    isplitr; · iexact ISrsS1_10
    isplitl [ASrsS1_10]; · iexact ASrsS1_10
    iexact CSrsS1_10
  iexact HO

attribute [local sl_rounds] duties_dma amount_dma expect_dma in
set_option maxHeartbeats 4000000 in
theorem part26_spec (c : Dev nD) (v2 : BitVec 32) (O : CellTallies nD τ sig Unit) (W : Waits sig Unit) (Q : (PUnit) → sProp 𝕄) :
    iprop(copyRes m K rsS rsR c 1 11
      ∗ ((chunk accM (fwd c 11) 1).view.loc (c : Thread nD τ) ↦[(chunk accM (fwd c 11) 1).view.set]{fullShare} (chunk accM (fwd c 11) 1).view.rep (sent m c (fwd c 11) 1))
      ∗ (∃ f, ((slot 1 11).view.loc (fwd c 11 : Thread nD τ) ↦[(slot 1 11).view.set]{fullShare} f))
      ∗ copyRes m K rsS rsR c 1 12
      ∗ ((chunk accM (fwd c 12) 1).view.loc (c : Thread nD τ) ↦[(chunk accM (fwd c 12) 1).view.set]{fullShare} (chunk accM (fwd c 12) 1).view.rep (sent m c (fwd c 12) 1))
      ∗ (∃ f, ((slot 1 12).view.loc (fwd c 12 : Thread nD τ) ↦[(slot 1 12).view.set]{fullShare} f))
      ∗ owes (c : Thread nD τ) (O + tallyAt (dmaCell (fwd c 12) rsR 1 12) () Nc + tallyAt (dmaCell (fwd c 11) rsR 1 11) () Nc) W
      ∗ (∀ r, (recvRes m K rsS c 1 11
        ∗ recvRes m K rsS c 1 12
        ∗ owes (c : Thread nD τ) (O) (W)) -∗ Q r))
      ⊢ wp frame (wpE (defs₀ (F := F)) 𝒱₀ c none) Set.univ (k0_part26 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS1_11, TSrsS1_11, #RSrsS1_11, ASrsS1_11, #IDrsS1_11, TDrsS1_11, #RDrsS1_11⟩, SrcrsS1_11, ⟨%grsS1_11, DstrsS1_11⟩, ⟨#ISrsS1_12, TSrsS1_12, #RSrsS1_12, ASrsS1_12, #IDrsS1_12, TDrsS1_12, #RDrsS1_12⟩, SrcrsS1_12, ⟨%grsS1_12, DstrsS1_12⟩, HO, Hk⟩
  sl_exec_parts (disch := simp only [dev73_eq, dev74_eq])
  iapply (wp_send_rs m K c 1 11 (by decide) grsS1_11 (W) (O + tallyAt (dmaCell (fwd c 12) rsR 1 12) () Nc + tallyAt (dmaCell (fwd c 11) rsR 1 11) () Nc) (O + tallyAt (dmaCell (fwd c 12) rsR 1 12) () Nc) rfl) $$ [TSrsS1_11 TDrsS1_11 SrcrsS1_11 DstrsS1_11 HO]
  · isplitr; · iexact ISrsS1_11
    isplitr; · iexact IDrsS1_11
    isplitl [SrcrsS1_11]; · iexact SrcrsS1_11
    isplitl [DstrsS1_11]; · iexact DstrsS1_11
    isplitl [HO]; · iexact HO
    isplitl [TSrsS1_11]; · iexact TSrsS1_11
    isplitr; · iexact RSrsS1_11
    isplitl [TDrsS1_11]; · iexact TDrsS1_11
    iexact RDrsS1_11
  iintro ⟨CSrsS1_11, HO⟩
  sl_exec_parts (disch := simp only [dev73_eq, dev74_eq])
  iapply (wp_send_rs m K c 1 12 (by decide) grsS1_12 (W) (O + tallyAt (dmaCell (fwd c 12) rsR 1 12) () Nc) (O) rfl) $$ [TSrsS1_12 TDrsS1_12 SrcrsS1_12 DstrsS1_12 HO]
  · isplitr; · iexact ISrsS1_12
    isplitr; · iexact IDrsS1_12
    isplitl [SrcrsS1_12]; · iexact SrcrsS1_12
    isplitl [DstrsS1_12]; · iexact DstrsS1_12
    isplitl [HO]; · iexact HO
    isplitl [TSrsS1_12]; · iexact TSrsS1_12
    isplitr; · iexact RSrsS1_12
    isplitl [TDrsS1_12]; · iexact TDrsS1_12
    iexact RDrsS1_12
  iintro ⟨CSrsS1_12, HO⟩
  sl_exec_parts (disch := simp only [dev73_eq, dev74_eq])
  sl_step
  iapply Hk
  isplitl [ASrsS1_11 CSrsS1_11]
  · (try unfold recvRes)
    isplitr; · iexact ISrsS1_11
    isplitl [ASrsS1_11]; · iexact ASrsS1_11
    iexact CSrsS1_11
  isplitl [ASrsS1_12 CSrsS1_12]
  · (try unfold recvRes)
    isplitr; · iexact ISrsS1_12
    isplitl [ASrsS1_12]; · iexact ASrsS1_12
    iexact CSrsS1_12
  iexact HO

attribute [local sl_rounds] duties_dma amount_dma expect_dma in
set_option maxHeartbeats 4000000 in
theorem part27_spec (c : Dev nD) (v2 : BitVec 32) (O : CellTallies nD τ sig Unit) (W : Waits sig Unit) (Q : (BitVec 32) → sProp 𝕄) :
    iprop(copyRes m K rsS rsR c 1 13
      ∗ ((chunk accM (fwd c 13) 1).view.loc (c : Thread nD τ) ↦[(chunk accM (fwd c 13) 1).view.set]{fullShare} (chunk accM (fwd c 13) 1).view.rep (sent m c (fwd c 13) 1))
      ∗ (∃ f, ((slot 1 13).view.loc (fwd c 13 : Thread nD τ) ↦[(slot 1 13).view.set]{fullShare} f))
      ∗ copyRes m K rsS rsR c 1 14
      ∗ ((chunk accM (fwd c 14) 1).view.loc (c : Thread nD τ) ↦[(chunk accM (fwd c 14) 1).view.set]{fullShare} (chunk accM (fwd c 14) 1).view.rep (sent m c (fwd c 14) 1))
      ∗ (∃ f, ((slot 1 14).view.loc (fwd c 14 : Thread nD τ) ↦[(slot 1 14).view.set]{fullShare} f))
      ∗ copyRes m K rsS rsR c 1 15
      ∗ ((chunk accM (fwd c 15) 1).view.loc (c : Thread nD τ) ↦[(chunk accM (fwd c 15) 1).view.set]{fullShare} (chunk accM (fwd c 15) 1).view.rep (sent m c (fwd c 15) 1))
      ∗ (∃ f, ((slot 1 15).view.loc (fwd c 15 : Thread nD τ) ↦[(slot 1 15).view.set]{fullShare} f))
      ∗ owes (c : Thread nD τ) (O + tallyAt (dmaCell (fwd c 15) rsR 1 15) () Nc + tallyAt (dmaCell (fwd c 14) rsR 1 14) () Nc + tallyAt (dmaCell (fwd c 13) rsR 1 13) () Nc) W
      ∗ (∀ r, (recvRes m K rsS c 1 13
        ∗ recvRes m K rsS c 1 14
        ∗ recvRes m K rsS c 1 15
        ∗ owes (c : Thread nD τ) (O) (W)) -∗ Q r))
      ⊢ wp frame (wpE (defs₀ (F := F)) 𝒱₀ c none) Set.univ (k0_part27 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS1_13, TSrsS1_13, #RSrsS1_13, ASrsS1_13, #IDrsS1_13, TDrsS1_13, #RDrsS1_13⟩, SrcrsS1_13, ⟨%grsS1_13, DstrsS1_13⟩, ⟨#ISrsS1_14, TSrsS1_14, #RSrsS1_14, ASrsS1_14, #IDrsS1_14, TDrsS1_14, #RDrsS1_14⟩, SrcrsS1_14, ⟨%grsS1_14, DstrsS1_14⟩, ⟨#ISrsS1_15, TSrsS1_15, #RSrsS1_15, ASrsS1_15, #IDrsS1_15, TDrsS1_15, #RDrsS1_15⟩, SrcrsS1_15, ⟨%grsS1_15, DstrsS1_15⟩, HO, Hk⟩
  sl_exec_parts (disch := simp only [dev75_eq, dev76_eq, dev77_eq])
  iapply (wp_send_rs m K c 1 13 (by decide) grsS1_13 (W) (O + tallyAt (dmaCell (fwd c 15) rsR 1 15) () Nc + tallyAt (dmaCell (fwd c 14) rsR 1 14) () Nc + tallyAt (dmaCell (fwd c 13) rsR 1 13) () Nc) (O + tallyAt (dmaCell (fwd c 15) rsR 1 15) () Nc + tallyAt (dmaCell (fwd c 14) rsR 1 14) () Nc) rfl) $$ [TSrsS1_13 TDrsS1_13 SrcrsS1_13 DstrsS1_13 HO]
  · isplitr; · iexact ISrsS1_13
    isplitr; · iexact IDrsS1_13
    isplitl [SrcrsS1_13]; · iexact SrcrsS1_13
    isplitl [DstrsS1_13]; · iexact DstrsS1_13
    isplitl [HO]; · iexact HO
    isplitl [TSrsS1_13]; · iexact TSrsS1_13
    isplitr; · iexact RSrsS1_13
    isplitl [TDrsS1_13]; · iexact TDrsS1_13
    iexact RDrsS1_13
  iintro ⟨CSrsS1_13, HO⟩
  sl_exec_parts (disch := simp only [dev75_eq, dev76_eq, dev77_eq])
  iapply (wp_send_rs m K c 1 14 (by decide) grsS1_14 (W) (O + tallyAt (dmaCell (fwd c 15) rsR 1 15) () Nc + tallyAt (dmaCell (fwd c 14) rsR 1 14) () Nc) (O + tallyAt (dmaCell (fwd c 15) rsR 1 15) () Nc) rfl) $$ [TSrsS1_14 TDrsS1_14 SrcrsS1_14 DstrsS1_14 HO]
  · isplitr; · iexact ISrsS1_14
    isplitr; · iexact IDrsS1_14
    isplitl [SrcrsS1_14]; · iexact SrcrsS1_14
    isplitl [DstrsS1_14]; · iexact DstrsS1_14
    isplitl [HO]; · iexact HO
    isplitl [TSrsS1_14]; · iexact TSrsS1_14
    isplitr; · iexact RSrsS1_14
    isplitl [TDrsS1_14]; · iexact TDrsS1_14
    iexact RDrsS1_14
  iintro ⟨CSrsS1_14, HO⟩
  sl_exec_parts (disch := simp only [dev75_eq, dev76_eq, dev77_eq])
  iapply (wp_send_rs m K c 1 15 (by decide) grsS1_15 (W) (O + tallyAt (dmaCell (fwd c 15) rsR 1 15) () Nc) (O) rfl) $$ [TSrsS1_15 TDrsS1_15 SrcrsS1_15 DstrsS1_15 HO]
  · isplitr; · iexact ISrsS1_15
    isplitr; · iexact IDrsS1_15
    isplitl [SrcrsS1_15]; · iexact SrcrsS1_15
    isplitl [DstrsS1_15]; · iexact DstrsS1_15
    isplitl [HO]; · iexact HO
    isplitl [TSrsS1_15]; · iexact TSrsS1_15
    isplitr; · iexact RSrsS1_15
    isplitl [TDrsS1_15]; · iexact TDrsS1_15
    iexact RDrsS1_15
  iintro ⟨CSrsS1_15, HO⟩
  sl_exec_parts (disch := simp only [dev75_eq, dev76_eq, dev77_eq])
  sl_step
  iapply Hk
  isplitl [ASrsS1_13 CSrsS1_13]
  · (try unfold recvRes)
    isplitr; · iexact ISrsS1_13
    isplitl [ASrsS1_13]; · iexact ASrsS1_13
    iexact CSrsS1_13
  isplitl [ASrsS1_14 CSrsS1_14]
  · (try unfold recvRes)
    isplitr; · iexact ISrsS1_14
    isplitl [ASrsS1_14]; · iexact ASrsS1_14
    iexact CSrsS1_14
  isplitl [ASrsS1_15 CSrsS1_15]
  · (try unfold recvRes)
    isplitr; · iexact ISrsS1_15
    isplitl [ASrsS1_15]; · iexact ASrsS1_15
    iexact CSrsS1_15
  iexact HO

attribute [local sl_rounds] duties_dma amount_dma expect_dma in
set_option maxHeartbeats 4000000 in
theorem part28_spec (c : Dev nD) (v2 : BitVec 32) (v710 : BitVec 32) (O : CellTallies nD τ sig Unit) (W : Waits sig Unit) (Q : (BitVec 32) → sProp 𝕄) :
    iprop(copyRes m K rsS rsR c 1 16
      ∗ ((chunk accM (fwd c 16) 1).view.loc (c : Thread nD τ) ↦[(chunk accM (fwd c 16) 1).view.set]{fullShare} (chunk accM (fwd c 16) 1).view.rep (sent m c (fwd c 16) 1))
      ∗ (∃ f, ((slot 1 16).view.loc (fwd c 16 : Thread nD τ) ↦[(slot 1 16).view.set]{fullShare} f))
      ∗ copyRes m K rsS rsR c 1 17
      ∗ ((chunk accM (fwd c 17) 1).view.loc (c : Thread nD τ) ↦[(chunk accM (fwd c 17) 1).view.set]{fullShare} (chunk accM (fwd c 17) 1).view.rep (sent m c (fwd c 17) 1))
      ∗ (∃ f, ((slot 1 17).view.loc (fwd c 17 : Thread nD τ) ↦[(slot 1 17).view.set]{fullShare} f))
      ∗ owes (c : Thread nD τ) (O + tallyAt (dmaCell (fwd c 17) rsR 1 17) () Nc + tallyAt (dmaCell (fwd c 16) rsR 1 16) () Nc) W
      ∗ (∀ r, (recvRes m K rsS c 1 16
        ∗ recvRes m K rsS c 1 17
        ∗ owes (c : Thread nD τ) (O) (W)) -∗ Q r))
      ⊢ wp frame (wpE (defs₀ (F := F)) 𝒱₀ c none) Set.univ (k0_part28 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v710) Q := by
  unfold copyRes
  iintro ⟨⟨#ISrsS1_16, TSrsS1_16, #RSrsS1_16, ASrsS1_16, #IDrsS1_16, TDrsS1_16, #RDrsS1_16⟩, SrcrsS1_16, ⟨%grsS1_16, DstrsS1_16⟩, ⟨#ISrsS1_17, TSrsS1_17, #RSrsS1_17, ASrsS1_17, #IDrsS1_17, TDrsS1_17, #RDrsS1_17⟩, SrcrsS1_17, ⟨%grsS1_17, DstrsS1_17⟩, HO, Hk⟩
  sl_exec_parts (disch := simp only [dev78_eq, dev79_eq])
  iapply (wp_send_rs m K c 1 16 (by decide) grsS1_16 (W) (O + tallyAt (dmaCell (fwd c 17) rsR 1 17) () Nc + tallyAt (dmaCell (fwd c 16) rsR 1 16) () Nc) (O + tallyAt (dmaCell (fwd c 17) rsR 1 17) () Nc) rfl) $$ [TSrsS1_16 TDrsS1_16 SrcrsS1_16 DstrsS1_16 HO]
  · isplitr; · iexact ISrsS1_16
    isplitr; · iexact IDrsS1_16
    isplitl [SrcrsS1_16]; · iexact SrcrsS1_16
    isplitl [DstrsS1_16]; · iexact DstrsS1_16
    isplitl [HO]; · iexact HO
    isplitl [TSrsS1_16]; · iexact TSrsS1_16
    isplitr; · iexact RSrsS1_16
    isplitl [TDrsS1_16]; · iexact TDrsS1_16
    iexact RDrsS1_16
  iintro ⟨CSrsS1_16, HO⟩
  sl_exec_parts (disch := simp only [dev78_eq, dev79_eq])
  iapply (wp_send_rs m K c 1 17 (by decide) grsS1_17 (W) (O + tallyAt (dmaCell (fwd c 17) rsR 1 17) () Nc) (O) rfl) $$ [TSrsS1_17 TDrsS1_17 SrcrsS1_17 DstrsS1_17 HO]
  · isplitr; · iexact ISrsS1_17
    isplitr; · iexact IDrsS1_17
    isplitl [SrcrsS1_17]; · iexact SrcrsS1_17
    isplitl [DstrsS1_17]; · iexact DstrsS1_17
    isplitl [HO]; · iexact HO
    isplitl [TSrsS1_17]; · iexact TSrsS1_17
    isplitr; · iexact RSrsS1_17
    isplitl [TDrsS1_17]; · iexact TDrsS1_17
    iexact RDrsS1_17
  iintro ⟨CSrsS1_17, HO⟩
  sl_exec_parts (disch := simp only [dev78_eq, dev79_eq])
  sl_step
  iapply Hk
  isplitl [ASrsS1_16 CSrsS1_16]
  · (try unfold recvRes)
    isplitr; · iexact ISrsS1_16
    isplitl [ASrsS1_16]; · iexact ASrsS1_16
    iexact CSrsS1_16
  isplitl [ASrsS1_17 CSrsS1_17]
  · (try unfold recvRes)
    isplitr; · iexact ISrsS1_17
    isplitl [ASrsS1_17]; · iexact ASrsS1_17
    iexact CSrsS1_17
  iexact HO

attribute [local sl_rounds] duties_dma amount_dma expect_dma in
set_option maxHeartbeats 4000000 in
theorem part29_spec (c : Dev nD) (v2 : BitVec 32) (v735 : BitVec 32) (O : CellTallies nD τ sig Unit) (W : Waits sig Unit) (Q : (BitVec 32) → sProp 𝕄) :
    iprop(copyRes m K rsS rsR c 1 18
      ∗ ((chunk accM (fwd c 18) 1).view.loc (c : Thread nD τ) ↦[(chunk accM (fwd c 18) 1).view.set]{fullShare} (chunk accM (fwd c 18) 1).view.rep (sent m c (fwd c 18) 1))
      ∗ (∃ f, ((slot 1 18).view.loc (fwd c 18 : Thread nD τ) ↦[(slot 1 18).view.set]{fullShare} f))
      ∗ copyRes m K rsS rsR c 1 19
      ∗ ((chunk accM (fwd c 19) 1).view.loc (c : Thread nD τ) ↦[(chunk accM (fwd c 19) 1).view.set]{fullShare} (chunk accM (fwd c 19) 1).view.rep (sent m c (fwd c 19) 1))
      ∗ (∃ f, ((slot 1 19).view.loc (fwd c 19 : Thread nD τ) ↦[(slot 1 19).view.set]{fullShare} f))
      ∗ owes (c : Thread nD τ) (O + tallyAt (dmaCell (fwd c 19) rsR 1 19) () Nc + tallyAt (dmaCell (fwd c 18) rsR 1 18) () Nc) W
      ∗ (∀ r, (recvRes m K rsS c 1 18
        ∗ recvRes m K rsS c 1 19
        ∗ owes (c : Thread nD τ) (O) (W)) -∗ Q r))
      ⊢ wp frame (wpE (defs₀ (F := F)) 𝒱₀ c none) Set.univ (k0_part29 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v735) Q := by
  unfold copyRes
  iintro ⟨⟨#ISrsS1_18, TSrsS1_18, #RSrsS1_18, ASrsS1_18, #IDrsS1_18, TDrsS1_18, #RDrsS1_18⟩, SrcrsS1_18, ⟨%grsS1_18, DstrsS1_18⟩, ⟨#ISrsS1_19, TSrsS1_19, #RSrsS1_19, ASrsS1_19, #IDrsS1_19, TDrsS1_19, #RDrsS1_19⟩, SrcrsS1_19, ⟨%grsS1_19, DstrsS1_19⟩, HO, Hk⟩
  sl_exec_parts (disch := simp only [dev80_eq, dev81_eq])
  iapply (wp_send_rs m K c 1 18 (by decide) grsS1_18 (W) (O + tallyAt (dmaCell (fwd c 19) rsR 1 19) () Nc + tallyAt (dmaCell (fwd c 18) rsR 1 18) () Nc) (O + tallyAt (dmaCell (fwd c 19) rsR 1 19) () Nc) rfl) $$ [TSrsS1_18 TDrsS1_18 SrcrsS1_18 DstrsS1_18 HO]
  · isplitr; · iexact ISrsS1_18
    isplitr; · iexact IDrsS1_18
    isplitl [SrcrsS1_18]; · iexact SrcrsS1_18
    isplitl [DstrsS1_18]; · iexact DstrsS1_18
    isplitl [HO]; · iexact HO
    isplitl [TSrsS1_18]; · iexact TSrsS1_18
    isplitr; · iexact RSrsS1_18
    isplitl [TDrsS1_18]; · iexact TDrsS1_18
    iexact RDrsS1_18
  iintro ⟨CSrsS1_18, HO⟩
  sl_exec_parts (disch := simp only [dev80_eq, dev81_eq])
  iapply (wp_send_rs m K c 1 19 (by decide) grsS1_19 (W) (O + tallyAt (dmaCell (fwd c 19) rsR 1 19) () Nc) (O) rfl) $$ [TSrsS1_19 TDrsS1_19 SrcrsS1_19 DstrsS1_19 HO]
  · isplitr; · iexact ISrsS1_19
    isplitr; · iexact IDrsS1_19
    isplitl [SrcrsS1_19]; · iexact SrcrsS1_19
    isplitl [DstrsS1_19]; · iexact DstrsS1_19
    isplitl [HO]; · iexact HO
    isplitl [TSrsS1_19]; · iexact TSrsS1_19
    isplitr; · iexact RSrsS1_19
    isplitl [TDrsS1_19]; · iexact TDrsS1_19
    iexact RDrsS1_19
  iintro ⟨CSrsS1_19, HO⟩
  sl_exec_parts (disch := simp only [dev80_eq, dev81_eq])
  sl_step
  iapply Hk
  isplitl [ASrsS1_18 CSrsS1_18]
  · (try unfold recvRes)
    isplitr; · iexact ISrsS1_18
    isplitl [ASrsS1_18]; · iexact ASrsS1_18
    iexact CSrsS1_18
  isplitl [ASrsS1_19 CSrsS1_19]
  · (try unfold recvRes)
    isplitr; · iexact ISrsS1_19
    isplitl [ASrsS1_19]; · iexact ASrsS1_19
    iexact CSrsS1_19
  iexact HO

attribute [local sl_rounds] duties_dma amount_dma expect_dma in
set_option maxHeartbeats 4000000 in
theorem part30_spec (c : Dev nD) (v2 : BitVec 32) (v761 : BitVec 32) (O : CellTallies nD τ sig Unit) (W : Waits sig Unit) (Q : (PUnit) → sProp 𝕄) :
    iprop(copyRes m K rsS rsR c 1 20
      ∗ ((chunk accM (fwd c 20) 1).view.loc (c : Thread nD τ) ↦[(chunk accM (fwd c 20) 1).view.set]{fullShare} (chunk accM (fwd c 20) 1).view.rep (sent m c (fwd c 20) 1))
      ∗ (∃ f, ((slot 1 20).view.loc (fwd c 20 : Thread nD τ) ↦[(slot 1 20).view.set]{fullShare} f))
      ∗ copyRes m K rsS rsR c 1 21
      ∗ ((chunk accM (fwd c 21) 1).view.loc (c : Thread nD τ) ↦[(chunk accM (fwd c 21) 1).view.set]{fullShare} (chunk accM (fwd c 21) 1).view.rep (sent m c (fwd c 21) 1))
      ∗ (∃ f, ((slot 1 21).view.loc (fwd c 21 : Thread nD τ) ↦[(slot 1 21).view.set]{fullShare} f))
      ∗ owes (c : Thread nD τ) (O + tallyAt (dmaCell (fwd c 21) rsR 1 21) () Nc + tallyAt (dmaCell (fwd c 20) rsR 1 20) () Nc) W
      ∗ (∀ r, (recvRes m K rsS c 1 20
        ∗ recvRes m K rsS c 1 21
        ∗ owes (c : Thread nD τ) (O) (W)) -∗ Q r))
      ⊢ wp frame (wpE (defs₀ (F := F)) 𝒱₀ c none) Set.univ (k0_part30 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v761) Q := by
  unfold copyRes
  iintro ⟨⟨#ISrsS1_20, TSrsS1_20, #RSrsS1_20, ASrsS1_20, #IDrsS1_20, TDrsS1_20, #RDrsS1_20⟩, SrcrsS1_20, ⟨%grsS1_20, DstrsS1_20⟩, ⟨#ISrsS1_21, TSrsS1_21, #RSrsS1_21, ASrsS1_21, #IDrsS1_21, TDrsS1_21, #RDrsS1_21⟩, SrcrsS1_21, ⟨%grsS1_21, DstrsS1_21⟩, HO, Hk⟩
  sl_exec_parts (disch := simp only [dev82_eq, dev83_eq])
  iapply (wp_send_rs m K c 1 20 (by decide) grsS1_20 (W) (O + tallyAt (dmaCell (fwd c 21) rsR 1 21) () Nc + tallyAt (dmaCell (fwd c 20) rsR 1 20) () Nc) (O + tallyAt (dmaCell (fwd c 21) rsR 1 21) () Nc) rfl) $$ [TSrsS1_20 TDrsS1_20 SrcrsS1_20 DstrsS1_20 HO]
  · isplitr; · iexact ISrsS1_20
    isplitr; · iexact IDrsS1_20
    isplitl [SrcrsS1_20]; · iexact SrcrsS1_20
    isplitl [DstrsS1_20]; · iexact DstrsS1_20
    isplitl [HO]; · iexact HO
    isplitl [TSrsS1_20]; · iexact TSrsS1_20
    isplitr; · iexact RSrsS1_20
    isplitl [TDrsS1_20]; · iexact TDrsS1_20
    iexact RDrsS1_20
  iintro ⟨CSrsS1_20, HO⟩
  sl_exec_parts (disch := simp only [dev82_eq, dev83_eq])
  iapply (wp_send_rs m K c 1 21 (by decide) grsS1_21 (W) (O + tallyAt (dmaCell (fwd c 21) rsR 1 21) () Nc) (O) rfl) $$ [TSrsS1_21 TDrsS1_21 SrcrsS1_21 DstrsS1_21 HO]
  · isplitr; · iexact ISrsS1_21
    isplitr; · iexact IDrsS1_21
    isplitl [SrcrsS1_21]; · iexact SrcrsS1_21
    isplitl [DstrsS1_21]; · iexact DstrsS1_21
    isplitl [HO]; · iexact HO
    isplitl [TSrsS1_21]; · iexact TSrsS1_21
    isplitr; · iexact RSrsS1_21
    isplitl [TDrsS1_21]; · iexact TDrsS1_21
    iexact RDrsS1_21
  iintro ⟨CSrsS1_21, HO⟩
  sl_exec_parts (disch := simp only [dev82_eq, dev83_eq])
  sl_step
  iapply Hk
  isplitl [ASrsS1_20 CSrsS1_20]
  · (try unfold recvRes)
    isplitr; · iexact ISrsS1_20
    isplitl [ASrsS1_20]; · iexact ASrsS1_20
    iexact CSrsS1_20
  isplitl [ASrsS1_21 CSrsS1_21]
  · (try unfold recvRes)
    isplitr; · iexact ISrsS1_21
    isplitl [ASrsS1_21]; · iexact ASrsS1_21
    iexact CSrsS1_21
  iexact HO

attribute [local sl_rounds] duties_dma amount_dma expect_dma in
set_option maxHeartbeats 4000000 in
theorem part31_spec (c : Dev nD) (v2 : BitVec 32) (O : CellTallies nD τ sig Unit) (W : Waits sig Unit) (Q : (PUnit) → sProp 𝕄) :
    iprop(copyRes m K rsS rsR c 1 22
      ∗ ((chunk accM (fwd c 22) 1).view.loc (c : Thread nD τ) ↦[(chunk accM (fwd c 22) 1).view.set]{fullShare} (chunk accM (fwd c 22) 1).view.rep (sent m c (fwd c 22) 1))
      ∗ (∃ f, ((slot 1 22).view.loc (fwd c 22 : Thread nD τ) ↦[(slot 1 22).view.set]{fullShare} f))
      ∗ copyRes m K rsS rsR c 1 23
      ∗ ((chunk accM (fwd c 23) 1).view.loc (c : Thread nD τ) ↦[(chunk accM (fwd c 23) 1).view.set]{fullShare} (chunk accM (fwd c 23) 1).view.rep (sent m c (fwd c 23) 1))
      ∗ (∃ f, ((slot 1 23).view.loc (fwd c 23 : Thread nD τ) ↦[(slot 1 23).view.set]{fullShare} f))
      ∗ owes (c : Thread nD τ) (O + tallyAt (dmaCell (fwd c 23) rsR 1 23) () Nc + tallyAt (dmaCell (fwd c 22) rsR 1 22) () Nc) W
      ∗ (∀ r, (recvRes m K rsS c 1 22
        ∗ recvRes m K rsS c 1 23
        ∗ owes (c : Thread nD τ) (O) (W)) -∗ Q r))
      ⊢ wp frame (wpE (defs₀ (F := F)) 𝒱₀ c none) Set.univ (k0_part31 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS1_22, TSrsS1_22, #RSrsS1_22, ASrsS1_22, #IDrsS1_22, TDrsS1_22, #RDrsS1_22⟩, SrcrsS1_22, ⟨%grsS1_22, DstrsS1_22⟩, ⟨#ISrsS1_23, TSrsS1_23, #RSrsS1_23, ASrsS1_23, #IDrsS1_23, TDrsS1_23, #RDrsS1_23⟩, SrcrsS1_23, ⟨%grsS1_23, DstrsS1_23⟩, HO, Hk⟩
  sl_exec_parts (disch := simp only [dev84_eq, dev85_eq])
  iapply (wp_send_rs m K c 1 22 (by decide) grsS1_22 (W) (O + tallyAt (dmaCell (fwd c 23) rsR 1 23) () Nc + tallyAt (dmaCell (fwd c 22) rsR 1 22) () Nc) (O + tallyAt (dmaCell (fwd c 23) rsR 1 23) () Nc) rfl) $$ [TSrsS1_22 TDrsS1_22 SrcrsS1_22 DstrsS1_22 HO]
  · isplitr; · iexact ISrsS1_22
    isplitr; · iexact IDrsS1_22
    isplitl [SrcrsS1_22]; · iexact SrcrsS1_22
    isplitl [DstrsS1_22]; · iexact DstrsS1_22
    isplitl [HO]; · iexact HO
    isplitl [TSrsS1_22]; · iexact TSrsS1_22
    isplitr; · iexact RSrsS1_22
    isplitl [TDrsS1_22]; · iexact TDrsS1_22
    iexact RDrsS1_22
  iintro ⟨CSrsS1_22, HO⟩
  sl_exec_parts (disch := simp only [dev84_eq, dev85_eq])
  iapply (wp_send_rs m K c 1 23 (by decide) grsS1_23 (W) (O + tallyAt (dmaCell (fwd c 23) rsR 1 23) () Nc) (O) rfl) $$ [TSrsS1_23 TDrsS1_23 SrcrsS1_23 DstrsS1_23 HO]
  · isplitr; · iexact ISrsS1_23
    isplitr; · iexact IDrsS1_23
    isplitl [SrcrsS1_23]; · iexact SrcrsS1_23
    isplitl [DstrsS1_23]; · iexact DstrsS1_23
    isplitl [HO]; · iexact HO
    isplitl [TSrsS1_23]; · iexact TSrsS1_23
    isplitr; · iexact RSrsS1_23
    isplitl [TDrsS1_23]; · iexact TDrsS1_23
    iexact RDrsS1_23
  iintro ⟨CSrsS1_23, HO⟩
  sl_exec_parts (disch := simp only [dev84_eq, dev85_eq])
  sl_step
  iapply Hk
  isplitl [ASrsS1_22 CSrsS1_22]
  · (try unfold recvRes)
    isplitr; · iexact ISrsS1_22
    isplitl [ASrsS1_22]; · iexact ASrsS1_22
    iexact CSrsS1_22
  isplitl [ASrsS1_23 CSrsS1_23]
  · (try unfold recvRes)
    isplitr; · iexact ISrsS1_23
    isplitl [ASrsS1_23]; · iexact ASrsS1_23
    iexact CSrsS1_23
  iexact HO

attribute [local sl_rounds] duties_dma amount_dma expect_dma in
set_option maxHeartbeats 4000000 in
theorem part32_spec (c : Dev nD) (v2 : BitVec 32) (O : CellTallies nD τ sig Unit) (W : Waits sig Unit) (Q : (Σ' (v843 : BitVec 32), BitVec 32) → sProp 𝕄) :
    iprop(copyRes m K rsS rsR c 1 24
      ∗ ((chunk accM (fwd c 24) 1).view.loc (c : Thread nD τ) ↦[(chunk accM (fwd c 24) 1).view.set]{fullShare} (chunk accM (fwd c 24) 1).view.rep (sent m c (fwd c 24) 1))
      ∗ (∃ f, ((slot 1 24).view.loc (fwd c 24 : Thread nD τ) ↦[(slot 1 24).view.set]{fullShare} f))
      ∗ copyRes m K rsS rsR c 1 25
      ∗ ((chunk accM (fwd c 25) 1).view.loc (c : Thread nD τ) ↦[(chunk accM (fwd c 25) 1).view.set]{fullShare} (chunk accM (fwd c 25) 1).view.rep (sent m c (fwd c 25) 1))
      ∗ (∃ f, ((slot 1 25).view.loc (fwd c 25 : Thread nD τ) ↦[(slot 1 25).view.set]{fullShare} f))
      ∗ copyRes m K rsS rsR c 1 26
      ∗ ((chunk accM (fwd c 26) 1).view.loc (c : Thread nD τ) ↦[(chunk accM (fwd c 26) 1).view.set]{fullShare} (chunk accM (fwd c 26) 1).view.rep (sent m c (fwd c 26) 1))
      ∗ (∃ f, ((slot 1 26).view.loc (fwd c 26 : Thread nD τ) ↦[(slot 1 26).view.set]{fullShare} f))
      ∗ owes (c : Thread nD τ) (O + tallyAt (dmaCell (fwd c 26) rsR 1 26) () Nc + tallyAt (dmaCell (fwd c 25) rsR 1 25) () Nc + tallyAt (dmaCell (fwd c 24) rsR 1 24) () Nc) W
      ∗ (∀ r, (recvRes m K rsS c 1 24
        ∗ recvRes m K rsS c 1 25
        ∗ recvRes m K rsS c 1 26
        ∗ owes (c : Thread nD τ) (O) (W)) -∗ Q r))
      ⊢ wp frame (wpE (defs₀ (F := F)) 𝒱₀ c none) Set.univ (k0_part32 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISrsS1_24, TSrsS1_24, #RSrsS1_24, ASrsS1_24, #IDrsS1_24, TDrsS1_24, #RDrsS1_24⟩, SrcrsS1_24, ⟨%grsS1_24, DstrsS1_24⟩, ⟨#ISrsS1_25, TSrsS1_25, #RSrsS1_25, ASrsS1_25, #IDrsS1_25, TDrsS1_25, #RDrsS1_25⟩, SrcrsS1_25, ⟨%grsS1_25, DstrsS1_25⟩, ⟨#ISrsS1_26, TSrsS1_26, #RSrsS1_26, ASrsS1_26, #IDrsS1_26, TDrsS1_26, #RDrsS1_26⟩, SrcrsS1_26, ⟨%grsS1_26, DstrsS1_26⟩, HO, Hk⟩
  sl_exec_parts (disch := simp only [dev86_eq, dev87_eq, dev88_eq])
  iapply (wp_send_rs m K c 1 24 (by decide) grsS1_24 (W) (O + tallyAt (dmaCell (fwd c 26) rsR 1 26) () Nc + tallyAt (dmaCell (fwd c 25) rsR 1 25) () Nc + tallyAt (dmaCell (fwd c 24) rsR 1 24) () Nc) (O + tallyAt (dmaCell (fwd c 26) rsR 1 26) () Nc + tallyAt (dmaCell (fwd c 25) rsR 1 25) () Nc) rfl) $$ [TSrsS1_24 TDrsS1_24 SrcrsS1_24 DstrsS1_24 HO]
  · isplitr; · iexact ISrsS1_24
    isplitr; · iexact IDrsS1_24
    isplitl [SrcrsS1_24]; · iexact SrcrsS1_24
    isplitl [DstrsS1_24]; · iexact DstrsS1_24
    isplitl [HO]; · iexact HO
    isplitl [TSrsS1_24]; · iexact TSrsS1_24
    isplitr; · iexact RSrsS1_24
    isplitl [TDrsS1_24]; · iexact TDrsS1_24
    iexact RDrsS1_24
  iintro ⟨CSrsS1_24, HO⟩
  sl_exec_parts (disch := simp only [dev86_eq, dev87_eq, dev88_eq])
  iapply (wp_send_rs m K c 1 25 (by decide) grsS1_25 (W) (O + tallyAt (dmaCell (fwd c 26) rsR 1 26) () Nc + tallyAt (dmaCell (fwd c 25) rsR 1 25) () Nc) (O + tallyAt (dmaCell (fwd c 26) rsR 1 26) () Nc) rfl) $$ [TSrsS1_25 TDrsS1_25 SrcrsS1_25 DstrsS1_25 HO]
  · isplitr; · iexact ISrsS1_25
    isplitr; · iexact IDrsS1_25
    isplitl [SrcrsS1_25]; · iexact SrcrsS1_25
    isplitl [DstrsS1_25]; · iexact DstrsS1_25
    isplitl [HO]; · iexact HO
    isplitl [TSrsS1_25]; · iexact TSrsS1_25
    isplitr; · iexact RSrsS1_25
    isplitl [TDrsS1_25]; · iexact TDrsS1_25
    iexact RDrsS1_25
  iintro ⟨CSrsS1_25, HO⟩
  sl_exec_parts (disch := simp only [dev86_eq, dev87_eq, dev88_eq])
  iapply (wp_send_rs m K c 1 26 (by decide) grsS1_26 (W) (O + tallyAt (dmaCell (fwd c 26) rsR 1 26) () Nc) (O) rfl) $$ [TSrsS1_26 TDrsS1_26 SrcrsS1_26 DstrsS1_26 HO]
  · isplitr; · iexact ISrsS1_26
    isplitr; · iexact IDrsS1_26
    isplitl [SrcrsS1_26]; · iexact SrcrsS1_26
    isplitl [DstrsS1_26]; · iexact DstrsS1_26
    isplitl [HO]; · iexact HO
    isplitl [TSrsS1_26]; · iexact TSrsS1_26
    isplitr; · iexact RSrsS1_26
    isplitl [TDrsS1_26]; · iexact TDrsS1_26
    iexact RDrsS1_26
  iintro ⟨CSrsS1_26, HO⟩
  sl_exec_parts (disch := simp only [dev86_eq, dev87_eq, dev88_eq])
  sl_step
  iapply Hk
  isplitl [ASrsS1_24 CSrsS1_24]
  · (try unfold recvRes)
    isplitr; · iexact ISrsS1_24
    isplitl [ASrsS1_24]; · iexact ASrsS1_24
    iexact CSrsS1_24
  isplitl [ASrsS1_25 CSrsS1_25]
  · (try unfold recvRes)
    isplitr; · iexact ISrsS1_25
    isplitl [ASrsS1_25]; · iexact ASrsS1_25
    iexact CSrsS1_25
  isplitl [ASrsS1_26 CSrsS1_26]
  · (try unfold recvRes)
    isplitr; · iexact ISrsS1_26
    isplitl [ASrsS1_26]; · iexact ASrsS1_26
    iexact CSrsS1_26
  iexact HO

attribute [local sl_rounds] duties_dma amount_dma expect_dma in
set_option maxHeartbeats 4000000 in
theorem part33_spec (c : Dev nD) (v2 : BitVec 32) (v843 : BitVec 32) (c32_i32_942 : BitVec 32) (O : CellTallies nD τ sig Unit) (W : Waits sig Unit) (Q : (BitVec 32) → sProp 𝕄) :
    iprop(copyRes m K rsS rsR c 1 27
      ∗ ((chunk accM (fwd c 27) 1).view.loc (c : Thread nD τ) ↦[(chunk accM (fwd c 27) 1).view.set]{fullShare} (chunk accM (fwd c 27) 1).view.rep (sent m c (fwd c 27) 1))
      ∗ (∃ f, ((slot 1 27).view.loc (fwd c 27 : Thread nD τ) ↦[(slot 1 27).view.set]{fullShare} f))
      ∗ copyRes m K rsS rsR c 1 28
      ∗ ((chunk accM (fwd c 28) 1).view.loc (c : Thread nD τ) ↦[(chunk accM (fwd c 28) 1).view.set]{fullShare} (chunk accM (fwd c 28) 1).view.rep (sent m c (fwd c 28) 1))
      ∗ (∃ f, ((slot 1 28).view.loc (fwd c 28 : Thread nD τ) ↦[(slot 1 28).view.set]{fullShare} f))
      ∗ owes (c : Thread nD τ) (O + tallyAt (dmaCell (fwd c 28) rsR 1 28) () Nc + tallyAt (dmaCell (fwd c 27) rsR 1 27) () Nc) W
      ∗ (∀ r, (recvRes m K rsS c 1 27
        ∗ recvRes m K rsS c 1 28
        ∗ owes (c : Thread nD τ) (O) (W)) -∗ Q r))
      ⊢ wp frame (wpE (defs₀ (F := F)) 𝒱₀ c none) Set.univ (k0_part33 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v843 c32_i32_942) Q := by
  unfold copyRes
  iintro ⟨⟨#ISrsS1_27, TSrsS1_27, #RSrsS1_27, ASrsS1_27, #IDrsS1_27, TDrsS1_27, #RDrsS1_27⟩, SrcrsS1_27, ⟨%grsS1_27, DstrsS1_27⟩, ⟨#ISrsS1_28, TSrsS1_28, #RSrsS1_28, ASrsS1_28, #IDrsS1_28, TDrsS1_28, #RDrsS1_28⟩, SrcrsS1_28, ⟨%grsS1_28, DstrsS1_28⟩, HO, Hk⟩
  sl_exec_parts (disch := simp only [dev89_eq, dev90_eq])
  iapply (wp_send_rs m K c 1 27 (by decide) grsS1_27 (W) (O + tallyAt (dmaCell (fwd c 28) rsR 1 28) () Nc + tallyAt (dmaCell (fwd c 27) rsR 1 27) () Nc) (O + tallyAt (dmaCell (fwd c 28) rsR 1 28) () Nc) rfl) $$ [TSrsS1_27 TDrsS1_27 SrcrsS1_27 DstrsS1_27 HO]
  · isplitr; · iexact ISrsS1_27
    isplitr; · iexact IDrsS1_27
    isplitl [SrcrsS1_27]; · iexact SrcrsS1_27
    isplitl [DstrsS1_27]; · iexact DstrsS1_27
    isplitl [HO]; · iexact HO
    isplitl [TSrsS1_27]; · iexact TSrsS1_27
    isplitr; · iexact RSrsS1_27
    isplitl [TDrsS1_27]; · iexact TDrsS1_27
    iexact RDrsS1_27
  iintro ⟨CSrsS1_27, HO⟩
  sl_exec_parts (disch := simp only [dev89_eq, dev90_eq])
  iapply (wp_send_rs m K c 1 28 (by decide) grsS1_28 (W) (O + tallyAt (dmaCell (fwd c 28) rsR 1 28) () Nc) (O) rfl) $$ [TSrsS1_28 TDrsS1_28 SrcrsS1_28 DstrsS1_28 HO]
  · isplitr; · iexact ISrsS1_28
    isplitr; · iexact IDrsS1_28
    isplitl [SrcrsS1_28]; · iexact SrcrsS1_28
    isplitl [DstrsS1_28]; · iexact DstrsS1_28
    isplitl [HO]; · iexact HO
    isplitl [TSrsS1_28]; · iexact TSrsS1_28
    isplitr; · iexact RSrsS1_28
    isplitl [TDrsS1_28]; · iexact TDrsS1_28
    iexact RDrsS1_28
  iintro ⟨CSrsS1_28, HO⟩
  sl_exec_parts (disch := simp only [dev89_eq, dev90_eq])
  sl_step
  iapply Hk
  isplitl [ASrsS1_27 CSrsS1_27]
  · (try unfold recvRes)
    isplitr; · iexact ISrsS1_27
    isplitl [ASrsS1_27]; · iexact ASrsS1_27
    iexact CSrsS1_27
  isplitl [ASrsS1_28 CSrsS1_28]
  · (try unfold recvRes)
    isplitr; · iexact ISrsS1_28
    isplitl [ASrsS1_28]; · iexact ASrsS1_28
    iexact CSrsS1_28
  iexact HO

attribute [local sl_rounds] duties_dma amount_dma expect_dma in
set_option maxHeartbeats 4000000 in
theorem part34_spec (c : Dev nD) (v2 : BitVec 32) (v867 : BitVec 32) (O : CellTallies nD τ sig Unit) (W : Waits sig Unit) (Q : (PUnit) → sProp 𝕄) :
    iprop(copyRes m K rsS rsR c 1 29
      ∗ ((chunk accM (fwd c 29) 1).view.loc (c : Thread nD τ) ↦[(chunk accM (fwd c 29) 1).view.set]{fullShare} (chunk accM (fwd c 29) 1).view.rep (sent m c (fwd c 29) 1))
      ∗ (∃ f, ((slot 1 29).view.loc (fwd c 29 : Thread nD τ) ↦[(slot 1 29).view.set]{fullShare} f))
      ∗ copyRes m K rsS rsR c 1 30
      ∗ ((chunk accM (fwd c 30) 1).view.loc (c : Thread nD τ) ↦[(chunk accM (fwd c 30) 1).view.set]{fullShare} (chunk accM (fwd c 30) 1).view.rep (sent m c (fwd c 30) 1))
      ∗ (∃ f, ((slot 1 30).view.loc (fwd c 30 : Thread nD τ) ↦[(slot 1 30).view.set]{fullShare} f))
      ∗ owes (c : Thread nD τ) (O + tallyAt (dmaCell (fwd c 30) rsR 1 30) () Nc + tallyAt (dmaCell (fwd c 29) rsR 1 29) () Nc) W
      ∗ (∀ r, (recvRes m K rsS c 1 29
        ∗ recvRes m K rsS c 1 30
        ∗ owes (c : Thread nD τ) (O) (W)) -∗ Q r))
      ⊢ wp frame (wpE (defs₀ (F := F)) 𝒱₀ c none) Set.univ (k0_part34 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v867) Q := by
  unfold copyRes
  iintro ⟨⟨#ISrsS1_29, TSrsS1_29, #RSrsS1_29, ASrsS1_29, #IDrsS1_29, TDrsS1_29, #RDrsS1_29⟩, SrcrsS1_29, ⟨%grsS1_29, DstrsS1_29⟩, ⟨#ISrsS1_30, TSrsS1_30, #RSrsS1_30, ASrsS1_30, #IDrsS1_30, TDrsS1_30, #RDrsS1_30⟩, SrcrsS1_30, ⟨%grsS1_30, DstrsS1_30⟩, HO, Hk⟩
  sl_exec_parts (disch := simp only [dev91_eq, dev92_eq])
  iapply (wp_send_rs m K c 1 29 (by decide) grsS1_29 (W) (O + tallyAt (dmaCell (fwd c 30) rsR 1 30) () Nc + tallyAt (dmaCell (fwd c 29) rsR 1 29) () Nc) (O + tallyAt (dmaCell (fwd c 30) rsR 1 30) () Nc) rfl) $$ [TSrsS1_29 TDrsS1_29 SrcrsS1_29 DstrsS1_29 HO]
  · isplitr; · iexact ISrsS1_29
    isplitr; · iexact IDrsS1_29
    isplitl [SrcrsS1_29]; · iexact SrcrsS1_29
    isplitl [DstrsS1_29]; · iexact DstrsS1_29
    isplitl [HO]; · iexact HO
    isplitl [TSrsS1_29]; · iexact TSrsS1_29
    isplitr; · iexact RSrsS1_29
    isplitl [TDrsS1_29]; · iexact TDrsS1_29
    iexact RDrsS1_29
  iintro ⟨CSrsS1_29, HO⟩
  sl_exec_parts (disch := simp only [dev91_eq, dev92_eq])
  iapply (wp_send_rs m K c 1 30 (by decide) grsS1_30 (W) (O + tallyAt (dmaCell (fwd c 30) rsR 1 30) () Nc) (O) rfl) $$ [TSrsS1_30 TDrsS1_30 SrcrsS1_30 DstrsS1_30 HO]
  · isplitr; · iexact ISrsS1_30
    isplitr; · iexact IDrsS1_30
    isplitl [SrcrsS1_30]; · iexact SrcrsS1_30
    isplitl [DstrsS1_30]; · iexact DstrsS1_30
    isplitl [HO]; · iexact HO
    isplitl [TSrsS1_30]; · iexact TSrsS1_30
    isplitr; · iexact RSrsS1_30
    isplitl [TDrsS1_30]; · iexact TDrsS1_30
    iexact RDrsS1_30
  iintro ⟨CSrsS1_30, HO⟩
  sl_exec_parts (disch := simp only [dev91_eq, dev92_eq])
  sl_step
  iapply Hk
  isplitl [ASrsS1_29 CSrsS1_29]
  · (try unfold recvRes)
    isplitr; · iexact ISrsS1_29
    isplitl [ASrsS1_29]; · iexact ASrsS1_29
    iexact CSrsS1_29
  isplitl [ASrsS1_30 CSrsS1_30]
  · (try unfold recvRes)
    isplitr; · iexact ISrsS1_30
    isplitl [ASrsS1_30]; · iexact ASrsS1_30
    iexact CSrsS1_30
  iexact HO

attribute [local sl_rounds] duties_dma amount_dma expect_dma pay_rsR in
set_option maxHeartbeats 4000000 in
theorem part35_spec (c : Dev nD) (v2 : BitVec 32) (O : CellTallies nD τ sig Unit) (hmwrsR0_1 : (levAts L lv : sProp 𝕄) ⊢ MayWait (c : Thread nD τ) (.dma (semAt (arr rsR) 0 1)) () O) (W : Waits sig Unit) (Q : (PUnit) → sProp 𝕄) :
    iprop(copyRes m K rsS rsR c 1 31
      ∗ ((chunk accM (fwd c 31) 1).view.loc (c : Thread nD τ) ↦[(chunk accM (fwd c 31) 1).view.set]{fullShare} (chunk accM (fwd c 31) 1).view.rep (sent m c (fwd c 31) 1))
      ∗ (∃ f, ((slot 1 31).view.loc (fwd c 31 : Thread nD τ) ↦[(slot 1 31).view.set]{fullShare} f))
      ∗ recvRes m K rsR c 0 1
      ∗ levAts L lv
      ∗ owes (c : Thread nD τ) (O + tallyAt (dmaCell (fwd c 31) rsR 1 31) () Nc) W
      ∗ (∀ r, (recvRes m K rsS c 1 31
        ∗ ((slot 0 1).view.loc (c : Thread nD τ) ↦[(slot 0 1).view.set]{fullShare} (slot 0 1).view.rep (sent m (bwd c 1) c 0))
        ∗ (cellInv ER (sched m) (K (dmaCell c rsR 0 1)) (dmaCell c rsR 0 1) ∗ atPos ER (dmaCell c rsR 0 1) 1 ∅ 0)
        ∗ owes (c : Thread nD τ) (O) (insert (SemLoc.dma (semAt (arr rsR) 0 1), ()) (W))) -∗ Q r))
      ⊢ wp frame (wpE (defs₀ (F := F)) 𝒱₀ c none) Set.univ (k0_part35 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes recvRes
  iintro ⟨⟨#ISrsS1_31, TSrsS1_31, #RSrsS1_31, ASrsS1_31, #IDrsS1_31, TDrsS1_31, #RDrsS1_31⟩, SrcrsS1_31, ⟨%grsS1_31, DstrsS1_31⟩, ⟨#IrsR0_1, ArsR0_1, CrsR0_1⟩, #Hlev, HO, Hk⟩
  sl_exec_parts (disch := simp only [dev93_eq])
  iapply (wp_send_rs m K c 1 31 (by decide) grsS1_31 (W) (O + tallyAt (dmaCell (fwd c 31) rsR 1 31) () Nc) (O) rfl) $$ [TSrsS1_31 TDrsS1_31 SrcrsS1_31 DstrsS1_31 HO]
  · isplitr; · iexact ISrsS1_31
    isplitr; · iexact IDrsS1_31
    isplitl [SrcrsS1_31]; · iexact SrcrsS1_31
    isplitl [DstrsS1_31]; · iexact DstrsS1_31
    isplitl [HO]; · iexact HO
    isplitl [TSrsS1_31]; · iexact TSrsS1_31
    isplitr; · iexact RSrsS1_31
    isplitl [TDrsS1_31]; · iexact TDrsS1_31
    iexact RDrsS1_31
  iintro ⟨CSrsS1_31, HO⟩
  sl_exec_parts (disch := simp only [dev93_eq])
  sl_step
  iapply Hk
  isplitl [ASrsS1_31 CSrsS1_31]
  · (try unfold recvRes)
    isplitr; · iexact ISrsS1_31
    isplitl [ASrsS1_31]; · iexact ASrsS1_31
    iexact CSrsS1_31
  isplitl [ArsR0_1_pay1]; · iexact ArsR0_1_pay1
  isplitl [ArsR0_1]; · (isplitr; · iexact IrsR0_1); iexact ArsR0_1
  iexact HO

end Cert.Kernel.AllReduce

end
-- ==== Proof.Word.BodyCopiesC.lean ====
/-
  The copies of the gather phase, half 0: the device sends its finished rows to every peer.
  One statement per printed part of the kernel body, over the resources that part touches and nothing else.
-/
import proofs.«900438_g7700000000000439_dist_gemm_ar_m1024_k1024_n1024_f32_gelu_v7x_i32_1_alg».proof.Proof.Word.BodyTables
noncomputable section
namespace Cert.Kernel.AllReduce
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma in
set_option maxHeartbeats 4000000 in
theorem part51_spec (c : Dev nD) (v2 : BitVec 32) (O : CellTallies nD τ sig Unit) (W : Waits sig Unit) (Q : (BitVec 32) → sProp 𝕄) :
    iprop(copyRes m K agS agR c 0 1
      ∗ ((chunk outM c 0).view.loc (c : Thread nD τ) ↦[(chunk outM c 0).view.set]{shr 1} (chunk outM c 0).view.rep (reduced m c 0))
      ∗ (∃ f, ((chunk outM c 0).view.loc (fwd c 1 : Thread nD τ) ↦[(chunk outM c 0).view.set]{fullShare} f))
      ∗ copyRes m K agS agR c 0 2
      ∗ ((chunk outM c 0).view.loc (c : Thread nD τ) ↦[(chunk outM c 0).view.set]{shr 2} (chunk outM c 0).view.rep (reduced m c 0))
      ∗ (∃ f, ((chunk outM c 0).view.loc (fwd c 2 : Thread nD τ) ↦[(chunk outM c 0).view.set]{fullShare} f))
      ∗ copyRes m K agS agR c 0 3
      ∗ ((chunk outM c 0).view.loc (c : Thread nD τ) ↦[(chunk outM c 0).view.set]{shr 3} (chunk outM c 0).view.rep (reduced m c 0))
      ∗ (∃ f, ((chunk outM c 0).view.loc (fwd c 3 : Thread nD τ) ↦[(chunk outM c 0).view.set]{fullShare} f))
      ∗ owes (c : Thread nD τ) (O + tallyAt (dmaCell (fwd c 3) agR 0 3) () Nc + tallyAt (dmaCell (fwd c 2) agR 0 2) () Nc + tallyAt (dmaCell (fwd c 1) agR 0 1) () Nc) W
      ∗ (∀ r, (recvRes m K agS c 0 1
        ∗ recvRes m K agS c 0 2
        ∗ recvRes m K agS c 0 3
        ∗ owes (c : Thread nD τ) (O) (W)) -∗ Q r))
      ⊢ wp frame (wpE (defs₀ (F := F)) 𝒱₀ c none) Set.univ (k0_part51 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS0_1, TSagS0_1, #RSagS0_1, ASagS0_1, #IDagS0_1, TDagS0_1, #RDagS0_1⟩, SrcagS0_1, ⟨%gagS0_1, DstagS0_1⟩, ⟨#ISagS0_2, TSagS0_2, #RSagS0_2, ASagS0_2, #IDagS0_2, TDagS0_2, #RDagS0_2⟩, SrcagS0_2, ⟨%gagS0_2, DstagS0_2⟩, ⟨#ISagS0_3, TSagS0_3, #RSagS0_3, ASagS0_3, #IDagS0_3, TDagS0_3, #RDagS0_3⟩, SrcagS0_3, ⟨%gagS0_3, DstagS0_3⟩, HO, Hk⟩
  sl_exec_parts (disch := simp only [dev94_eq, dev95_eq, dev96_eq])
  iapply (wp_send_ag m K c 0 1 (by decide) gagS0_1 (W) (O + tallyAt (dmaCell (fwd c 3) agR 0 3) () Nc + tallyAt (dmaCell (fwd c 2) agR 0 2) () Nc + tallyAt (dmaCell (fwd c 1) agR 0 1) () Nc) (O + tallyAt (dmaCell (fwd c 3) agR 0 3) () Nc + tallyAt (dmaCell (fwd c 2) agR 0 2) () Nc) rfl) $$ [TSagS0_1 TDagS0_1 SrcagS0_1 DstagS0_1 HO]
  · isplitr; · iexact ISagS0_1
    isplitr; · iexact IDagS0_1
    isplitl [SrcagS0_1]; · iexact SrcagS0_1
    isplitl [DstagS0_1]; · iexact DstagS0_1
    isplitl [HO]; · iexact HO
    isplitl [TSagS0_1]; · iexact TSagS0_1
    isplitr; · iexact RSagS0_1
    isplitl [TDagS0_1]; · iexact TDagS0_1
    iexact RDagS0_1
  iintro ⟨CSagS0_1, HO⟩
  sl_exec_parts (disch := simp only [dev94_eq, dev95_eq, dev96_eq])
  iapply (wp_send_ag m K c 0 2 (by decide) gagS0_2 (W) (O + tallyAt (dmaCell (fwd c 3) agR 0 3) () Nc + tallyAt (dmaCell (fwd c 2) agR 0 2) () Nc) (O + tallyAt (dmaCell (fwd c 3) agR 0 3) () Nc) rfl) $$ [TSagS0_2 TDagS0_2 SrcagS0_2 DstagS0_2 HO]
  · isplitr; · iexact ISagS0_2
    isplitr; · iexact IDagS0_2
    isplitl [SrcagS0_2]; · iexact SrcagS0_2
    isplitl [DstagS0_2]; · iexact DstagS0_2
    isplitl [HO]; · iexact HO
    isplitl [TSagS0_2]; · iexact TSagS0_2
    isplitr; · iexact RSagS0_2
    isplitl [TDagS0_2]; · iexact TDagS0_2
    iexact RDagS0_2
  iintro ⟨CSagS0_2, HO⟩
  sl_exec_parts (disch := simp only [dev94_eq, dev95_eq, dev96_eq])
  iapply (wp_send_ag m K c 0 3 (by decide) gagS0_3 (W) (O + tallyAt (dmaCell (fwd c 3) agR 0 3) () Nc) (O) rfl) $$ [TSagS0_3 TDagS0_3 SrcagS0_3 DstagS0_3 HO]
  · isplitr; · iexact ISagS0_3
    isplitr; · iexact IDagS0_3
    isplitl [SrcagS0_3]; · iexact SrcagS0_3
    isplitl [DstagS0_3]; · iexact DstagS0_3
    isplitl [HO]; · iexact HO
    isplitl [TSagS0_3]; · iexact TSagS0_3
    isplitr; · iexact RSagS0_3
    isplitl [TDagS0_3]; · iexact TDagS0_3
    iexact RDagS0_3
  iintro ⟨CSagS0_3, HO⟩
  sl_exec_parts (disch := simp only [dev94_eq, dev95_eq, dev96_eq])
  sl_step
  iapply Hk
  isplitl [ASagS0_1 CSagS0_1]
  · (try unfold recvRes)
    isplitr; · iexact ISagS0_1
    isplitl [ASagS0_1]; · iexact ASagS0_1
    iexact CSagS0_1
  isplitl [ASagS0_2 CSagS0_2]
  · (try unfold recvRes)
    isplitr; · iexact ISagS0_2
    isplitl [ASagS0_2]; · iexact ASagS0_2
    iexact CSagS0_2
  isplitl [ASagS0_3 CSagS0_3]
  · (try unfold recvRes)
    isplitr; · iexact ISagS0_3
    isplitl [ASagS0_3]; · iexact ASagS0_3
    iexact CSagS0_3
  iexact HO

attribute [local sl_rounds] duties_dma amount_dma expect_dma in
set_option maxHeartbeats 4000000 in
theorem part52_spec (c : Dev nD) (v2 : BitVec 32) (c4_i32_1584 : BitVec 32) (O : CellTallies nD τ sig Unit) (W : Waits sig Unit) (Q : (BitVec 32) → sProp 𝕄) :
    iprop(copyRes m K agS agR c 0 4
      ∗ ((chunk outM c 0).view.loc (c : Thread nD τ) ↦[(chunk outM c 0).view.set]{shr 4} (chunk outM c 0).view.rep (reduced m c 0))
      ∗ (∃ f, ((chunk outM c 0).view.loc (fwd c 4 : Thread nD τ) ↦[(chunk outM c 0).view.set]{fullShare} f))
      ∗ copyRes m K agS agR c 0 5
      ∗ ((chunk outM c 0).view.loc (c : Thread nD τ) ↦[(chunk outM c 0).view.set]{shr 5} (chunk outM c 0).view.rep (reduced m c 0))
      ∗ (∃ f, ((chunk outM c 0).view.loc (fwd c 5 : Thread nD τ) ↦[(chunk outM c 0).view.set]{fullShare} f))
      ∗ owes (c : Thread nD τ) (O + tallyAt (dmaCell (fwd c 5) agR 0 5) () Nc + tallyAt (dmaCell (fwd c 4) agR 0 4) () Nc) W
      ∗ (∀ r, (recvRes m K agS c 0 4
        ∗ recvRes m K agS c 0 5
        ∗ owes (c : Thread nD τ) (O) (W)) -∗ Q r))
      ⊢ wp frame (wpE (defs₀ (F := F)) 𝒱₀ c none) Set.univ (k0_part52 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 c4_i32_1584) Q := by
  unfold copyRes
  iintro ⟨⟨#ISagS0_4, TSagS0_4, #RSagS0_4, ASagS0_4, #IDagS0_4, TDagS0_4, #RDagS0_4⟩, SrcagS0_4, ⟨%gagS0_4, DstagS0_4⟩, ⟨#ISagS0_5, TSagS0_5, #RSagS0_5, ASagS0_5, #IDagS0_5, TDagS0_5, #RDagS0_5⟩, SrcagS0_5, ⟨%gagS0_5, DstagS0_5⟩, HO, Hk⟩
  sl_exec_parts (disch := simp only [dev97_eq, dev98_eq])
  iapply (wp_send_ag m K c 0 4 (by decide) gagS0_4 (W) (O + tallyAt (dmaCell (fwd c 5) agR 0 5) () Nc + tallyAt (dmaCell (fwd c 4) agR 0 4) () Nc) (O + tallyAt (dmaCell (fwd c 5) agR 0 5) () Nc) rfl) $$ [TSagS0_4 TDagS0_4 SrcagS0_4 DstagS0_4 HO]
  · isplitr; · iexact ISagS0_4
    isplitr; · iexact IDagS0_4
    isplitl [SrcagS0_4]; · iexact SrcagS0_4
    isplitl [DstagS0_4]; · iexact DstagS0_4
    isplitl [HO]; · iexact HO
    isplitl [TSagS0_4]; · iexact TSagS0_4
    isplitr; · iexact RSagS0_4
    isplitl [TDagS0_4]; · iexact TDagS0_4
    iexact RDagS0_4
  iintro ⟨CSagS0_4, HO⟩
  sl_exec_parts (disch := simp only [dev97_eq, dev98_eq])
  iapply (wp_send_ag m K c 0 5 (by decide) gagS0_5 (W) (O + tallyAt (dmaCell (fwd c 5) agR 0 5) () Nc) (O) rfl) $$ [TSagS0_5 TDagS0_5 SrcagS0_5 DstagS0_5 HO]
  · isplitr; · iexact ISagS0_5
    isplitr; · iexact IDagS0_5
    isplitl [SrcagS0_5]; · iexact SrcagS0_5
    isplitl [DstagS0_5]; · iexact DstagS0_5
    isplitl [HO]; · iexact HO
    isplitl [TSagS0_5]; · iexact TSagS0_5
    isplitr; · iexact RSagS0_5
    isplitl [TDagS0_5]; · iexact TDagS0_5
    iexact RDagS0_5
  iintro ⟨CSagS0_5, HO⟩
  sl_exec_parts (disch := simp only [dev97_eq, dev98_eq])
  sl_step
  iapply Hk
  isplitl [ASagS0_4 CSagS0_4]
  · (try unfold recvRes)
    isplitr; · iexact ISagS0_4
    isplitl [ASagS0_4]; · iexact ASagS0_4
    iexact CSagS0_4
  isplitl [ASagS0_5 CSagS0_5]
  · (try unfold recvRes)
    isplitr; · iexact ISagS0_5
    isplitl [ASagS0_5]; · iexact ASagS0_5
    iexact CSagS0_5
  iexact HO

attribute [local sl_rounds] duties_dma amount_dma expect_dma in
set_option maxHeartbeats 4000000 in
theorem part53_spec (c : Dev nD) (v2 : BitVec 32) (v1327 : BitVec 32) (O : CellTallies nD τ sig Unit) (W : Waits sig Unit) (Q : (PUnit) → sProp 𝕄) :
    iprop(copyRes m K agS agR c 0 6
      ∗ ((chunk outM c 0).view.loc (c : Thread nD τ) ↦[(chunk outM c 0).view.set]{shr 6} (chunk outM c 0).view.rep (reduced m c 0))
      ∗ (∃ f, ((chunk outM c 0).view.loc (fwd c 6 : Thread nD τ) ↦[(chunk outM c 0).view.set]{fullShare} f))
      ∗ copyRes m K agS agR c 0 7
      ∗ ((chunk outM c 0).view.loc (c : Thread nD τ) ↦[(chunk outM c 0).view.set]{shr 7} (chunk outM c 0).view.rep (reduced m c 0))
      ∗ (∃ f, ((chunk outM c 0).view.loc (fwd c 7 : Thread nD τ) ↦[(chunk outM c 0).view.set]{fullShare} f))
      ∗ owes (c : Thread nD τ) (O + tallyAt (dmaCell (fwd c 7) agR 0 7) () Nc + tallyAt (dmaCell (fwd c 6) agR 0 6) () Nc) W
      ∗ (∀ r, (recvRes m K agS c 0 6
        ∗ recvRes m K agS c 0 7
        ∗ owes (c : Thread nD τ) (O) (W)) -∗ Q r))
      ⊢ wp frame (wpE (defs₀ (F := F)) 𝒱₀ c none) Set.univ (k0_part53 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1327) Q := by
  unfold copyRes
  iintro ⟨⟨#ISagS0_6, TSagS0_6, #RSagS0_6, ASagS0_6, #IDagS0_6, TDagS0_6, #RDagS0_6⟩, SrcagS0_6, ⟨%gagS0_6, DstagS0_6⟩, ⟨#ISagS0_7, TSagS0_7, #RSagS0_7, ASagS0_7, #IDagS0_7, TDagS0_7, #RDagS0_7⟩, SrcagS0_7, ⟨%gagS0_7, DstagS0_7⟩, HO, Hk⟩
  sl_exec_parts (disch := simp only [dev99_eq, dev100_eq])
  iapply (wp_send_ag m K c 0 6 (by decide) gagS0_6 (W) (O + tallyAt (dmaCell (fwd c 7) agR 0 7) () Nc + tallyAt (dmaCell (fwd c 6) agR 0 6) () Nc) (O + tallyAt (dmaCell (fwd c 7) agR 0 7) () Nc) rfl) $$ [TSagS0_6 TDagS0_6 SrcagS0_6 DstagS0_6 HO]
  · isplitr; · iexact ISagS0_6
    isplitr; · iexact IDagS0_6
    isplitl [SrcagS0_6]; · iexact SrcagS0_6
    isplitl [DstagS0_6]; · iexact DstagS0_6
    isplitl [HO]; · iexact HO
    isplitl [TSagS0_6]; · iexact TSagS0_6
    isplitr; · iexact RSagS0_6
    isplitl [TDagS0_6]; · iexact TDagS0_6
    iexact RDagS0_6
  iintro ⟨CSagS0_6, HO⟩
  sl_exec_parts (disch := simp only [dev99_eq, dev100_eq])
  iapply (wp_send_ag m K c 0 7 (by decide) gagS0_7 (W) (O + tallyAt (dmaCell (fwd c 7) agR 0 7) () Nc) (O) rfl) $$ [TSagS0_7 TDagS0_7 SrcagS0_7 DstagS0_7 HO]
  · isplitr; · iexact ISagS0_7
    isplitr; · iexact IDagS0_7
    isplitl [SrcagS0_7]; · iexact SrcagS0_7
    isplitl [DstagS0_7]; · iexact DstagS0_7
    isplitl [HO]; · iexact HO
    isplitl [TSagS0_7]; · iexact TSagS0_7
    isplitr; · iexact RSagS0_7
    isplitl [TDagS0_7]; · iexact TDagS0_7
    iexact RDagS0_7
  iintro ⟨CSagS0_7, HO⟩
  sl_exec_parts (disch := simp only [dev99_eq, dev100_eq])
  sl_step
  iapply Hk
  isplitl [ASagS0_6 CSagS0_6]
  · (try unfold recvRes)
    isplitr; · iexact ISagS0_6
    isplitl [ASagS0_6]; · iexact ASagS0_6
    iexact CSagS0_6
  isplitl [ASagS0_7 CSagS0_7]
  · (try unfold recvRes)
    isplitr; · iexact ISagS0_7
    isplitl [ASagS0_7]; · iexact ASagS0_7
    iexact CSagS0_7
  iexact HO

attribute [local sl_rounds] duties_dma amount_dma expect_dma in
set_option maxHeartbeats 4000000 in
theorem part54_spec (c : Dev nD) (v2 : BitVec 32) (O : CellTallies nD τ sig Unit) (W : Waits sig Unit) (Q : (BitVec 32) → sProp 𝕄) :
    iprop(copyRes m K agS agR c 0 8
      ∗ ((chunk outM c 0).view.loc (c : Thread nD τ) ↦[(chunk outM c 0).view.set]{shr 8} (chunk outM c 0).view.rep (reduced m c 0))
      ∗ (∃ f, ((chunk outM c 0).view.loc (fwd c 8 : Thread nD τ) ↦[(chunk outM c 0).view.set]{fullShare} f))
      ∗ copyRes m K agS agR c 0 9
      ∗ ((chunk outM c 0).view.loc (c : Thread nD τ) ↦[(chunk outM c 0).view.set]{shr 9} (chunk outM c 0).view.rep (reduced m c 0))
      ∗ (∃ f, ((chunk outM c 0).view.loc (fwd c 9 : Thread nD τ) ↦[(chunk outM c 0).view.set]{fullShare} f))
      ∗ copyRes m K agS agR c 0 10
      ∗ ((chunk outM c 0).view.loc (c : Thread nD τ) ↦[(chunk outM c 0).view.set]{shr 10} (chunk outM c 0).view.rep (reduced m c 0))
      ∗ (∃ f, ((chunk outM c 0).view.loc (fwd c 10 : Thread nD τ) ↦[(chunk outM c 0).view.set]{fullShare} f))
      ∗ owes (c : Thread nD τ) (O + tallyAt (dmaCell (fwd c 10) agR 0 10) () Nc + tallyAt (dmaCell (fwd c 9) agR 0 9) () Nc + tallyAt (dmaCell (fwd c 8) agR 0 8) () Nc) W
      ∗ (∀ r, (recvRes m K agS c 0 8
        ∗ recvRes m K agS c 0 9
        ∗ recvRes m K agS c 0 10
        ∗ owes (c : Thread nD τ) (O) (W)) -∗ Q r))
      ⊢ wp frame (wpE (defs₀ (F := F)) 𝒱₀ c none) Set.univ (k0_part54 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS0_8, TSagS0_8, #RSagS0_8, ASagS0_8, #IDagS0_8, TDagS0_8, #RDagS0_8⟩, SrcagS0_8, ⟨%gagS0_8, DstagS0_8⟩, ⟨#ISagS0_9, TSagS0_9, #RSagS0_9, ASagS0_9, #IDagS0_9, TDagS0_9, #RDagS0_9⟩, SrcagS0_9, ⟨%gagS0_9, DstagS0_9⟩, ⟨#ISagS0_10, TSagS0_10, #RSagS0_10, ASagS0_10, #IDagS0_10, TDagS0_10, #RDagS0_10⟩, SrcagS0_10, ⟨%gagS0_10, DstagS0_10⟩, HO, Hk⟩
  sl_exec_parts (disch := simp only [dev101_eq, dev102_eq, dev103_eq])
  iapply (wp_send_ag m K c 0 8 (by decide) gagS0_8 (W) (O + tallyAt (dmaCell (fwd c 10) agR 0 10) () Nc + tallyAt (dmaCell (fwd c 9) agR 0 9) () Nc + tallyAt (dmaCell (fwd c 8) agR 0 8) () Nc) (O + tallyAt (dmaCell (fwd c 10) agR 0 10) () Nc + tallyAt (dmaCell (fwd c 9) agR 0 9) () Nc) rfl) $$ [TSagS0_8 TDagS0_8 SrcagS0_8 DstagS0_8 HO]
  · isplitr; · iexact ISagS0_8
    isplitr; · iexact IDagS0_8
    isplitl [SrcagS0_8]; · iexact SrcagS0_8
    isplitl [DstagS0_8]; · iexact DstagS0_8
    isplitl [HO]; · iexact HO
    isplitl [TSagS0_8]; · iexact TSagS0_8
    isplitr; · iexact RSagS0_8
    isplitl [TDagS0_8]; · iexact TDagS0_8
    iexact RDagS0_8
  iintro ⟨CSagS0_8, HO⟩
  sl_exec_parts (disch := simp only [dev101_eq, dev102_eq, dev103_eq])
  iapply (wp_send_ag m K c 0 9 (by decide) gagS0_9 (W) (O + tallyAt (dmaCell (fwd c 10) agR 0 10) () Nc + tallyAt (dmaCell (fwd c 9) agR 0 9) () Nc) (O + tallyAt (dmaCell (fwd c 10) agR 0 10) () Nc) rfl) $$ [TSagS0_9 TDagS0_9 SrcagS0_9 DstagS0_9 HO]
  · isplitr; · iexact ISagS0_9
    isplitr; · iexact IDagS0_9
    isplitl [SrcagS0_9]; · iexact SrcagS0_9
    isplitl [DstagS0_9]; · iexact DstagS0_9
    isplitl [HO]; · iexact HO
    isplitl [TSagS0_9]; · iexact TSagS0_9
    isplitr; · iexact RSagS0_9
    isplitl [TDagS0_9]; · iexact TDagS0_9
    iexact RDagS0_9
  iintro ⟨CSagS0_9, HO⟩
  sl_exec_parts (disch := simp only [dev101_eq, dev102_eq, dev103_eq])
  iapply (wp_send_ag m K c 0 10 (by decide) gagS0_10 (W) (O + tallyAt (dmaCell (fwd c 10) agR 0 10) () Nc) (O) rfl) $$ [TSagS0_10 TDagS0_10 SrcagS0_10 DstagS0_10 HO]
  · isplitr; · iexact ISagS0_10
    isplitr; · iexact IDagS0_10
    isplitl [SrcagS0_10]; · iexact SrcagS0_10
    isplitl [DstagS0_10]; · iexact DstagS0_10
    isplitl [HO]; · iexact HO
    isplitl [TSagS0_10]; · iexact TSagS0_10
    isplitr; · iexact RSagS0_10
    isplitl [TDagS0_10]; · iexact TDagS0_10
    iexact RDagS0_10
  iintro ⟨CSagS0_10, HO⟩
  sl_exec_parts (disch := simp only [dev101_eq, dev102_eq, dev103_eq])
  sl_step
  iapply Hk
  isplitl [ASagS0_8 CSagS0_8]
  · (try unfold recvRes)
    isplitr; · iexact ISagS0_8
    isplitl [ASagS0_8]; · iexact ASagS0_8
    iexact CSagS0_8
  isplitl [ASagS0_9 CSagS0_9]
  · (try unfold recvRes)
    isplitr; · iexact ISagS0_9
    isplitl [ASagS0_9]; · iexact ASagS0_9
    iexact CSagS0_9
  isplitl [ASagS0_10 CSagS0_10]
  · (try unfold recvRes)
    isplitr; · iexact ISagS0_10
    isplitl [ASagS0_10]; · iexact ASagS0_10
    iexact CSagS0_10
  iexact HO

attribute [local sl_rounds] duties_dma amount_dma expect_dma in
set_option maxHeartbeats 4000000 in
theorem part55_spec (c : Dev nD) (v2 : BitVec 32) (v1387 : BitVec 32) (O : CellTallies nD τ sig Unit) (W : Waits sig Unit) (Q : (PUnit) → sProp 𝕄) :
    iprop(copyRes m K agS agR c 0 11
      ∗ ((chunk outM c 0).view.loc (c : Thread nD τ) ↦[(chunk outM c 0).view.set]{shr 11} (chunk outM c 0).view.rep (reduced m c 0))
      ∗ (∃ f, ((chunk outM c 0).view.loc (fwd c 11 : Thread nD τ) ↦[(chunk outM c 0).view.set]{fullShare} f))
      ∗ copyRes m K agS agR c 0 12
      ∗ ((chunk outM c 0).view.loc (c : Thread nD τ) ↦[(chunk outM c 0).view.set]{shr 12} (chunk outM c 0).view.rep (reduced m c 0))
      ∗ (∃ f, ((chunk outM c 0).view.loc (fwd c 12 : Thread nD τ) ↦[(chunk outM c 0).view.set]{fullShare} f))
      ∗ owes (c : Thread nD τ) (O + tallyAt (dmaCell (fwd c 12) agR 0 12) () Nc + tallyAt (dmaCell (fwd c 11) agR 0 11) () Nc) W
      ∗ (∀ r, (recvRes m K agS c 0 11
        ∗ recvRes m K agS c 0 12
        ∗ owes (c : Thread nD τ) (O) (W)) -∗ Q r))
      ⊢ wp frame (wpE (defs₀ (F := F)) 𝒱₀ c none) Set.univ (k0_part55 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1387) Q := by
  unfold copyRes
  iintro ⟨⟨#ISagS0_11, TSagS0_11, #RSagS0_11, ASagS0_11, #IDagS0_11, TDagS0_11, #RDagS0_11⟩, SrcagS0_11, ⟨%gagS0_11, DstagS0_11⟩, ⟨#ISagS0_12, TSagS0_12, #RSagS0_12, ASagS0_12, #IDagS0_12, TDagS0_12, #RDagS0_12⟩, SrcagS0_12, ⟨%gagS0_12, DstagS0_12⟩, HO, Hk⟩
  sl_exec_parts (disch := simp only [dev104_eq, dev105_eq])
  iapply (wp_send_ag m K c 0 11 (by decide) gagS0_11 (W) (O + tallyAt (dmaCell (fwd c 12) agR 0 12) () Nc + tallyAt (dmaCell (fwd c 11) agR 0 11) () Nc) (O + tallyAt (dmaCell (fwd c 12) agR 0 12) () Nc) rfl) $$ [TSagS0_11 TDagS0_11 SrcagS0_11 DstagS0_11 HO]
  · isplitr; · iexact ISagS0_11
    isplitr; · iexact IDagS0_11
    isplitl [SrcagS0_11]; · iexact SrcagS0_11
    isplitl [DstagS0_11]; · iexact DstagS0_11
    isplitl [HO]; · iexact HO
    isplitl [TSagS0_11]; · iexact TSagS0_11
    isplitr; · iexact RSagS0_11
    isplitl [TDagS0_11]; · iexact TDagS0_11
    iexact RDagS0_11
  iintro ⟨CSagS0_11, HO⟩
  sl_exec_parts (disch := simp only [dev104_eq, dev105_eq])
  iapply (wp_send_ag m K c 0 12 (by decide) gagS0_12 (W) (O + tallyAt (dmaCell (fwd c 12) agR 0 12) () Nc) (O) rfl) $$ [TSagS0_12 TDagS0_12 SrcagS0_12 DstagS0_12 HO]
  · isplitr; · iexact ISagS0_12
    isplitr; · iexact IDagS0_12
    isplitl [SrcagS0_12]; · iexact SrcagS0_12
    isplitl [DstagS0_12]; · iexact DstagS0_12
    isplitl [HO]; · iexact HO
    isplitl [TSagS0_12]; · iexact TSagS0_12
    isplitr; · iexact RSagS0_12
    isplitl [TDagS0_12]; · iexact TDagS0_12
    iexact RDagS0_12
  iintro ⟨CSagS0_12, HO⟩
  sl_exec_parts (disch := simp only [dev104_eq, dev105_eq])
  sl_step
  iapply Hk
  isplitl [ASagS0_11 CSagS0_11]
  · (try unfold recvRes)
    isplitr; · iexact ISagS0_11
    isplitl [ASagS0_11]; · iexact ASagS0_11
    iexact CSagS0_11
  isplitl [ASagS0_12 CSagS0_12]
  · (try unfold recvRes)
    isplitr; · iexact ISagS0_12
    isplitl [ASagS0_12]; · iexact ASagS0_12
    iexact CSagS0_12
  iexact HO

attribute [local sl_rounds] duties_dma amount_dma expect_dma in
set_option maxHeartbeats 4000000 in
theorem part56_spec (c : Dev nD) (v2 : BitVec 32) (O : CellTallies nD τ sig Unit) (W : Waits sig Unit) (Q : (BitVec 32) → sProp 𝕄) :
    iprop(copyRes m K agS agR c 0 13
      ∗ ((chunk outM c 0).view.loc (c : Thread nD τ) ↦[(chunk outM c 0).view.set]{shr 13} (chunk outM c 0).view.rep (reduced m c 0))
      ∗ (∃ f, ((chunk outM c 0).view.loc (fwd c 13 : Thread nD τ) ↦[(chunk outM c 0).view.set]{fullShare} f))
      ∗ copyRes m K agS agR c 0 14
      ∗ ((chunk outM c 0).view.loc (c : Thread nD τ) ↦[(chunk outM c 0).view.set]{shr 14} (chunk outM c 0).view.rep (reduced m c 0))
      ∗ (∃ f, ((chunk outM c 0).view.loc (fwd c 14 : Thread nD τ) ↦[(chunk outM c 0).view.set]{fullShare} f))
      ∗ copyRes m K agS agR c 0 15
      ∗ ((chunk outM c 0).view.loc (c : Thread nD τ) ↦[(chunk outM c 0).view.set]{shr 15} (chunk outM c 0).view.rep (reduced m c 0))
      ∗ (∃ f, ((chunk outM c 0).view.loc (fwd c 15 : Thread nD τ) ↦[(chunk outM c 0).view.set]{fullShare} f))
      ∗ owes (c : Thread nD τ) (O + tallyAt (dmaCell (fwd c 15) agR 0 15) () Nc + tallyAt (dmaCell (fwd c 14) agR 0 14) () Nc + tallyAt (dmaCell (fwd c 13) agR 0 13) () Nc) W
      ∗ (∀ r, (recvRes m K agS c 0 13
        ∗ recvRes m K agS c 0 14
        ∗ recvRes m K agS c 0 15
        ∗ owes (c : Thread nD τ) (O) (W)) -∗ Q r))
      ⊢ wp frame (wpE (defs₀ (F := F)) 𝒱₀ c none) Set.univ (k0_part56 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS0_13, TSagS0_13, #RSagS0_13, ASagS0_13, #IDagS0_13, TDagS0_13, #RDagS0_13⟩, SrcagS0_13, ⟨%gagS0_13, DstagS0_13⟩, ⟨#ISagS0_14, TSagS0_14, #RSagS0_14, ASagS0_14, #IDagS0_14, TDagS0_14, #RDagS0_14⟩, SrcagS0_14, ⟨%gagS0_14, DstagS0_14⟩, ⟨#ISagS0_15, TSagS0_15, #RSagS0_15, ASagS0_15, #IDagS0_15, TDagS0_15, #RDagS0_15⟩, SrcagS0_15, ⟨%gagS0_15, DstagS0_15⟩, HO, Hk⟩
  sl_exec_parts (disch := simp only [dev106_eq, dev107_eq, dev108_eq])
  iapply (wp_send_ag m K c 0 13 (by decide) gagS0_13 (W) (O + tallyAt (dmaCell (fwd c 15) agR 0 15) () Nc + tallyAt (dmaCell (fwd c 14) agR 0 14) () Nc + tallyAt (dmaCell (fwd c 13) agR 0 13) () Nc) (O + tallyAt (dmaCell (fwd c 15) agR 0 15) () Nc + tallyAt (dmaCell (fwd c 14) agR 0 14) () Nc) rfl) $$ [TSagS0_13 TDagS0_13 SrcagS0_13 DstagS0_13 HO]
  · isplitr; · iexact ISagS0_13
    isplitr; · iexact IDagS0_13
    isplitl [SrcagS0_13]; · iexact SrcagS0_13
    isplitl [DstagS0_13]; · iexact DstagS0_13
    isplitl [HO]; · iexact HO
    isplitl [TSagS0_13]; · iexact TSagS0_13
    isplitr; · iexact RSagS0_13
    isplitl [TDagS0_13]; · iexact TDagS0_13
    iexact RDagS0_13
  iintro ⟨CSagS0_13, HO⟩
  sl_exec_parts (disch := simp only [dev106_eq, dev107_eq, dev108_eq])
  iapply (wp_send_ag m K c 0 14 (by decide) gagS0_14 (W) (O + tallyAt (dmaCell (fwd c 15) agR 0 15) () Nc + tallyAt (dmaCell (fwd c 14) agR 0 14) () Nc) (O + tallyAt (dmaCell (fwd c 15) agR 0 15) () Nc) rfl) $$ [TSagS0_14 TDagS0_14 SrcagS0_14 DstagS0_14 HO]
  · isplitr; · iexact ISagS0_14
    isplitr; · iexact IDagS0_14
    isplitl [SrcagS0_14]; · iexact SrcagS0_14
    isplitl [DstagS0_14]; · iexact DstagS0_14
    isplitl [HO]; · iexact HO
    isplitl [TSagS0_14]; · iexact TSagS0_14
    isplitr; · iexact RSagS0_14
    isplitl [TDagS0_14]; · iexact TDagS0_14
    iexact RDagS0_14
  iintro ⟨CSagS0_14, HO⟩
  sl_exec_parts (disch := simp only [dev106_eq, dev107_eq, dev108_eq])
  iapply (wp_send_ag m K c 0 15 (by decide) gagS0_15 (W) (O + tallyAt (dmaCell (fwd c 15) agR 0 15) () Nc) (O) rfl) $$ [TSagS0_15 TDagS0_15 SrcagS0_15 DstagS0_15 HO]
  · isplitr; · iexact ISagS0_15
    isplitr; · iexact IDagS0_15
    isplitl [SrcagS0_15]; · iexact SrcagS0_15
    isplitl [DstagS0_15]; · iexact DstagS0_15
    isplitl [HO]; · iexact HO
    isplitl [TSagS0_15]; · iexact TSagS0_15
    isplitr; · iexact RSagS0_15
    isplitl [TDagS0_15]; · iexact TDagS0_15
    iexact RDagS0_15
  iintro ⟨CSagS0_15, HO⟩
  sl_exec_parts (disch := simp only [dev106_eq, dev107_eq, dev108_eq])
  sl_step
  iapply Hk
  isplitl [ASagS0_13 CSagS0_13]
  · (try unfold recvRes)
    isplitr; · iexact ISagS0_13
    isplitl [ASagS0_13]; · iexact ASagS0_13
    iexact CSagS0_13
  isplitl [ASagS0_14 CSagS0_14]
  · (try unfold recvRes)
    isplitr; · iexact ISagS0_14
    isplitl [ASagS0_14]; · iexact ASagS0_14
    iexact CSagS0_14
  isplitl [ASagS0_15 CSagS0_15]
  · (try unfold recvRes)
    isplitr; · iexact ISagS0_15
    isplitl [ASagS0_15]; · iexact ASagS0_15
    iexact CSagS0_15
  iexact HO

attribute [local sl_rounds] duties_dma amount_dma expect_dma in
set_option maxHeartbeats 4000000 in
theorem part57_spec (c : Dev nD) (v2 : BitVec 32) (c16_i32_1728 : BitVec 32) (O : CellTallies nD τ sig Unit) (W : Waits sig Unit) (Q : (BitVec 32) → sProp 𝕄) :
    iprop(copyRes m K agS agR c 0 16
      ∗ ((chunk outM c 0).view.loc (c : Thread nD τ) ↦[(chunk outM c 0).view.set]{shr 16} (chunk outM c 0).view.rep (reduced m c 0))
      ∗ (∃ f, ((chunk outM c 0).view.loc (fwd c 16 : Thread nD τ) ↦[(chunk outM c 0).view.set]{fullShare} f))
      ∗ copyRes m K agS agR c 0 17
      ∗ ((chunk outM c 0).view.loc (c : Thread nD τ) ↦[(chunk outM c 0).view.set]{shr 17} (chunk outM c 0).view.rep (reduced m c 0))
      ∗ (∃ f, ((chunk outM c 0).view.loc (fwd c 17 : Thread nD τ) ↦[(chunk outM c 0).view.set]{fullShare} f))
      ∗ owes (c : Thread nD τ) (O + tallyAt (dmaCell (fwd c 17) agR 0 17) () Nc + tallyAt (dmaCell (fwd c 16) agR 0 16) () Nc) W
      ∗ (∀ r, (recvRes m K agS c 0 16
        ∗ recvRes m K agS c 0 17
        ∗ owes (c : Thread nD τ) (O) (W)) -∗ Q r))
      ⊢ wp frame (wpE (defs₀ (F := F)) 𝒱₀ c none) Set.univ (k0_part57 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 c16_i32_1728) Q := by
  unfold copyRes
  iintro ⟨⟨#ISagS0_16, TSagS0_16, #RSagS0_16, ASagS0_16, #IDagS0_16, TDagS0_16, #RDagS0_16⟩, SrcagS0_16, ⟨%gagS0_16, DstagS0_16⟩, ⟨#ISagS0_17, TSagS0_17, #RSagS0_17, ASagS0_17, #IDagS0_17, TDagS0_17, #RDagS0_17⟩, SrcagS0_17, ⟨%gagS0_17, DstagS0_17⟩, HO, Hk⟩
  sl_exec_parts (disch := simp only [dev109_eq, dev110_eq])
  iapply (wp_send_ag m K c 0 16 (by decide) gagS0_16 (W) (O + tallyAt (dmaCell (fwd c 17) agR 0 17) () Nc + tallyAt (dmaCell (fwd c 16) agR 0 16) () Nc) (O + tallyAt (dmaCell (fwd c 17) agR 0 17) () Nc) rfl) $$ [TSagS0_16 TDagS0_16 SrcagS0_16 DstagS0_16 HO]
  · isplitr; · iexact ISagS0_16
    isplitr; · iexact IDagS0_16
    isplitl [SrcagS0_16]; · iexact SrcagS0_16
    isplitl [DstagS0_16]; · iexact DstagS0_16
    isplitl [HO]; · iexact HO
    isplitl [TSagS0_16]; · iexact TSagS0_16
    isplitr; · iexact RSagS0_16
    isplitl [TDagS0_16]; · iexact TDagS0_16
    iexact RDagS0_16
  iintro ⟨CSagS0_16, HO⟩
  sl_exec_parts (disch := simp only [dev109_eq, dev110_eq])
  iapply (wp_send_ag m K c 0 17 (by decide) gagS0_17 (W) (O + tallyAt (dmaCell (fwd c 17) agR 0 17) () Nc) (O) rfl) $$ [TSagS0_17 TDagS0_17 SrcagS0_17 DstagS0_17 HO]
  · isplitr; · iexact ISagS0_17
    isplitr; · iexact IDagS0_17
    isplitl [SrcagS0_17]; · iexact SrcagS0_17
    isplitl [DstagS0_17]; · iexact DstagS0_17
    isplitl [HO]; · iexact HO
    isplitl [TSagS0_17]; · iexact TSagS0_17
    isplitr; · iexact RSagS0_17
    isplitl [TDagS0_17]; · iexact TDagS0_17
    iexact RDagS0_17
  iintro ⟨CSagS0_17, HO⟩
  sl_exec_parts (disch := simp only [dev109_eq, dev110_eq])
  sl_step
  iapply Hk
  isplitl [ASagS0_16 CSagS0_16]
  · (try unfold recvRes)
    isplitr; · iexact ISagS0_16
    isplitl [ASagS0_16]; · iexact ASagS0_16
    iexact CSagS0_16
  isplitl [ASagS0_17 CSagS0_17]
  · (try unfold recvRes)
    isplitr; · iexact ISagS0_17
    isplitl [ASagS0_17]; · iexact ASagS0_17
    iexact CSagS0_17
  iexact HO

attribute [local sl_rounds] duties_dma amount_dma expect_dma in
set_option maxHeartbeats 4000000 in
theorem part58_spec (c : Dev nD) (v2 : BitVec 32) (v1471 : BitVec 32) (O : CellTallies nD τ sig Unit) (W : Waits sig Unit) (Q : (PUnit) → sProp 𝕄) :
    iprop(copyRes m K agS agR c 0 18
      ∗ ((chunk outM c 0).view.loc (c : Thread nD τ) ↦[(chunk outM c 0).view.set]{shr 18} (chunk outM c 0).view.rep (reduced m c 0))
      ∗ (∃ f, ((chunk outM c 0).view.loc (fwd c 18 : Thread nD τ) ↦[(chunk outM c 0).view.set]{fullShare} f))
      ∗ copyRes m K agS agR c 0 19
      ∗ ((chunk outM c 0).view.loc (c : Thread nD τ) ↦[(chunk outM c 0).view.set]{shr 19} (chunk outM c 0).view.rep (reduced m c 0))
      ∗ (∃ f, ((chunk outM c 0).view.loc (fwd c 19 : Thread nD τ) ↦[(chunk outM c 0).view.set]{fullShare} f))
      ∗ owes (c : Thread nD τ) (O + tallyAt (dmaCell (fwd c 19) agR 0 19) () Nc + tallyAt (dmaCell (fwd c 18) agR 0 18) () Nc) W
      ∗ (∀ r, (recvRes m K agS c 0 18
        ∗ recvRes m K agS c 0 19
        ∗ owes (c : Thread nD τ) (O) (W)) -∗ Q r))
      ⊢ wp frame (wpE (defs₀ (F := F)) 𝒱₀ c none) Set.univ (k0_part58 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1471) Q := by
  unfold copyRes
  iintro ⟨⟨#ISagS0_18, TSagS0_18, #RSagS0_18, ASagS0_18, #IDagS0_18, TDagS0_18, #RDagS0_18⟩, SrcagS0_18, ⟨%gagS0_18, DstagS0_18⟩, ⟨#ISagS0_19, TSagS0_19, #RSagS0_19, ASagS0_19, #IDagS0_19, TDagS0_19, #RDagS0_19⟩, SrcagS0_19, ⟨%gagS0_19, DstagS0_19⟩, HO, Hk⟩
  sl_exec_parts (disch := simp only [dev111_eq, dev112_eq])
  iapply (wp_send_ag m K c 0 18 (by decide) gagS0_18 (W) (O + tallyAt (dmaCell (fwd c 19) agR 0 19) () Nc + tallyAt (dmaCell (fwd c 18) agR 0 18) () Nc) (O + tallyAt (dmaCell (fwd c 19) agR 0 19) () Nc) rfl) $$ [TSagS0_18 TDagS0_18 SrcagS0_18 DstagS0_18 HO]
  · isplitr; · iexact ISagS0_18
    isplitr; · iexact IDagS0_18
    isplitl [SrcagS0_18]; · iexact SrcagS0_18
    isplitl [DstagS0_18]; · iexact DstagS0_18
    isplitl [HO]; · iexact HO
    isplitl [TSagS0_18]; · iexact TSagS0_18
    isplitr; · iexact RSagS0_18
    isplitl [TDagS0_18]; · iexact TDagS0_18
    iexact RDagS0_18
  iintro ⟨CSagS0_18, HO⟩
  sl_exec_parts (disch := simp only [dev111_eq, dev112_eq])
  iapply (wp_send_ag m K c 0 19 (by decide) gagS0_19 (W) (O + tallyAt (dmaCell (fwd c 19) agR 0 19) () Nc) (O) rfl) $$ [TSagS0_19 TDagS0_19 SrcagS0_19 DstagS0_19 HO]
  · isplitr; · iexact ISagS0_19
    isplitr; · iexact IDagS0_19
    isplitl [SrcagS0_19]; · iexact SrcagS0_19
    isplitl [DstagS0_19]; · iexact DstagS0_19
    isplitl [HO]; · iexact HO
    isplitl [TSagS0_19]; · iexact TSagS0_19
    isplitr; · iexact RSagS0_19
    isplitl [TDagS0_19]; · iexact TDagS0_19
    iexact RDagS0_19
  iintro ⟨CSagS0_19, HO⟩
  sl_exec_parts (disch := simp only [dev111_eq, dev112_eq])
  sl_step
  iapply Hk
  isplitl [ASagS0_18 CSagS0_18]
  · (try unfold recvRes)
    isplitr; · iexact ISagS0_18
    isplitl [ASagS0_18]; · iexact ASagS0_18
    iexact CSagS0_18
  isplitl [ASagS0_19 CSagS0_19]
  · (try unfold recvRes)
    isplitr; · iexact ISagS0_19
    isplitl [ASagS0_19]; · iexact ASagS0_19
    iexact CSagS0_19
  iexact HO

attribute [local sl_rounds] duties_dma amount_dma expect_dma in
set_option maxHeartbeats 4000000 in
theorem part59_spec (c : Dev nD) (v2 : BitVec 32) (O : CellTallies nD τ sig Unit) (W : Waits sig Unit) (Q : (BitVec 32) → sProp 𝕄) :
    iprop(copyRes m K agS agR c 0 20
      ∗ ((chunk outM c 0).view.loc (c : Thread nD τ) ↦[(chunk outM c 0).view.set]{shr 20} (chunk outM c 0).view.rep (reduced m c 0))
      ∗ (∃ f, ((chunk outM c 0).view.loc (fwd c 20 : Thread nD τ) ↦[(chunk outM c 0).view.set]{fullShare} f))
      ∗ copyRes m K agS agR c 0 21
      ∗ ((chunk outM c 0).view.loc (c : Thread nD τ) ↦[(chunk outM c 0).view.set]{shr 21} (chunk outM c 0).view.rep (reduced m c 0))
      ∗ (∃ f, ((chunk outM c 0).view.loc (fwd c 21 : Thread nD τ) ↦[(chunk outM c 0).view.set]{fullShare} f))
      ∗ copyRes m K agS agR c 0 22
      ∗ ((chunk outM c 0).view.loc (c : Thread nD τ) ↦[(chunk outM c 0).view.set]{shr 22} (chunk outM c 0).view.rep (reduced m c 0))
      ∗ (∃ f, ((chunk outM c 0).view.loc (fwd c 22 : Thread nD τ) ↦[(chunk outM c 0).view.set]{fullShare} f))
      ∗ owes (c : Thread nD τ) (O + tallyAt (dmaCell (fwd c 22) agR 0 22) () Nc + tallyAt (dmaCell (fwd c 21) agR 0 21) () Nc + tallyAt (dmaCell (fwd c 20) agR 0 20) () Nc) W
      ∗ (∀ r, (recvRes m K agS c 0 20
        ∗ recvRes m K agS c 0 21
        ∗ recvRes m K agS c 0 22
        ∗ owes (c : Thread nD τ) (O) (W)) -∗ Q r))
      ⊢ wp frame (wpE (defs₀ (F := F)) 𝒱₀ c none) Set.univ (k0_part59 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS0_20, TSagS0_20, #RSagS0_20, ASagS0_20, #IDagS0_20, TDagS0_20, #RDagS0_20⟩, SrcagS0_20, ⟨%gagS0_20, DstagS0_20⟩, ⟨#ISagS0_21, TSagS0_21, #RSagS0_21, ASagS0_21, #IDagS0_21, TDagS0_21, #RDagS0_21⟩, SrcagS0_21, ⟨%gagS0_21, DstagS0_21⟩, ⟨#ISagS0_22, TSagS0_22, #RSagS0_22, ASagS0_22, #IDagS0_22, TDagS0_22, #RDagS0_22⟩, SrcagS0_22, ⟨%gagS0_22, DstagS0_22⟩, HO, Hk⟩
  sl_exec_parts (disch := simp only [dev113_eq, dev114_eq, dev115_eq])
  iapply (wp_send_ag m K c 0 20 (by decide) gagS0_20 (W) (O + tallyAt (dmaCell (fwd c 22) agR 0 22) () Nc + tallyAt (dmaCell (fwd c 21) agR 0 21) () Nc + tallyAt (dmaCell (fwd c 20) agR 0 20) () Nc) (O + tallyAt (dmaCell (fwd c 22) agR 0 22) () Nc + tallyAt (dmaCell (fwd c 21) agR 0 21) () Nc) rfl) $$ [TSagS0_20 TDagS0_20 SrcagS0_20 DstagS0_20 HO]
  · isplitr; · iexact ISagS0_20
    isplitr; · iexact IDagS0_20
    isplitl [SrcagS0_20]; · iexact SrcagS0_20
    isplitl [DstagS0_20]; · iexact DstagS0_20
    isplitl [HO]; · iexact HO
    isplitl [TSagS0_20]; · iexact TSagS0_20
    isplitr; · iexact RSagS0_20
    isplitl [TDagS0_20]; · iexact TDagS0_20
    iexact RDagS0_20
  iintro ⟨CSagS0_20, HO⟩
  sl_exec_parts (disch := simp only [dev113_eq, dev114_eq, dev115_eq])
  iapply (wp_send_ag m K c 0 21 (by decide) gagS0_21 (W) (O + tallyAt (dmaCell (fwd c 22) agR 0 22) () Nc + tallyAt (dmaCell (fwd c 21) agR 0 21) () Nc) (O + tallyAt (dmaCell (fwd c 22) agR 0 22) () Nc) rfl) $$ [TSagS0_21 TDagS0_21 SrcagS0_21 DstagS0_21 HO]
  · isplitr; · iexact ISagS0_21
    isplitr; · iexact IDagS0_21
    isplitl [SrcagS0_21]; · iexact SrcagS0_21
    isplitl [DstagS0_21]; · iexact DstagS0_21
    isplitl [HO]; · iexact HO
    isplitl [TSagS0_21]; · iexact TSagS0_21
    isplitr; · iexact RSagS0_21
    isplitl [TDagS0_21]; · iexact TDagS0_21
    iexact RDagS0_21
  iintro ⟨CSagS0_21, HO⟩
  sl_exec_parts (disch := simp only [dev113_eq, dev114_eq, dev115_eq])
  iapply (wp_send_ag m K c 0 22 (by decide) gagS0_22 (W) (O + tallyAt (dmaCell (fwd c 22) agR 0 22) () Nc) (O) rfl) $$ [TSagS0_22 TDagS0_22 SrcagS0_22 DstagS0_22 HO]
  · isplitr; · iexact ISagS0_22
    isplitr; · iexact IDagS0_22
    isplitl [SrcagS0_22]; · iexact SrcagS0_22
    isplitl [DstagS0_22]; · iexact DstagS0_22
    isplitl [HO]; · iexact HO
    isplitl [TSagS0_22]; · iexact TSagS0_22
    isplitr; · iexact RSagS0_22
    isplitl [TDagS0_22]; · iexact TDagS0_22
    iexact RDagS0_22
  iintro ⟨CSagS0_22, HO⟩
  sl_exec_parts (disch := simp only [dev113_eq, dev114_eq, dev115_eq])
  sl_step
  iapply Hk
  isplitl [ASagS0_20 CSagS0_20]
  · (try unfold recvRes)
    isplitr; · iexact ISagS0_20
    isplitl [ASagS0_20]; · iexact ASagS0_20
    iexact CSagS0_20
  isplitl [ASagS0_21 CSagS0_21]
  · (try unfold recvRes)
    isplitr; · iexact ISagS0_21
    isplitl [ASagS0_21]; · iexact ASagS0_21
    iexact CSagS0_21
  isplitl [ASagS0_22 CSagS0_22]
  · (try unfold recvRes)
    isplitr; · iexact ISagS0_22
    isplitl [ASagS0_22]; · iexact ASagS0_22
    iexact CSagS0_22
  iexact HO

attribute [local sl_rounds] duties_dma amount_dma expect_dma in
set_option maxHeartbeats 4000000 in
theorem part60_spec (c : Dev nD) (v2 : BitVec 32) (v1531 : BitVec 32) (O : CellTallies nD τ sig Unit) (W : Waits sig Unit) (Q : (PUnit) → sProp 𝕄) :
    iprop(copyRes m K agS agR c 0 23
      ∗ ((chunk outM c 0).view.loc (c : Thread nD τ) ↦[(chunk outM c 0).view.set]{shr 23} (chunk outM c 0).view.rep (reduced m c 0))
      ∗ (∃ f, ((chunk outM c 0).view.loc (fwd c 23 : Thread nD τ) ↦[(chunk outM c 0).view.set]{fullShare} f))
      ∗ copyRes m K agS agR c 0 24
      ∗ ((chunk outM c 0).view.loc (c : Thread nD τ) ↦[(chunk outM c 0).view.set]{shr 24} (chunk outM c 0).view.rep (reduced m c 0))
      ∗ (∃ f, ((chunk outM c 0).view.loc (fwd c 24 : Thread nD τ) ↦[(chunk outM c 0).view.set]{fullShare} f))
      ∗ owes (c : Thread nD τ) (O + tallyAt (dmaCell (fwd c 24) agR 0 24) () Nc + tallyAt (dmaCell (fwd c 23) agR 0 23) () Nc) W
      ∗ (∀ r, (recvRes m K agS c 0 23
        ∗ recvRes m K agS c 0 24
        ∗ owes (c : Thread nD τ) (O) (W)) -∗ Q r))
      ⊢ wp frame (wpE (defs₀ (F := F)) 𝒱₀ c none) Set.univ (k0_part60 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1531) Q := by
  unfold copyRes
  iintro ⟨⟨#ISagS0_23, TSagS0_23, #RSagS0_23, ASagS0_23, #IDagS0_23, TDagS0_23, #RDagS0_23⟩, SrcagS0_23, ⟨%gagS0_23, DstagS0_23⟩, ⟨#ISagS0_24, TSagS0_24, #RSagS0_24, ASagS0_24, #IDagS0_24, TDagS0_24, #RDagS0_24⟩, SrcagS0_24, ⟨%gagS0_24, DstagS0_24⟩, HO, Hk⟩
  sl_exec_parts (disch := simp only [dev116_eq, dev117_eq])
  iapply (wp_send_ag m K c 0 23 (by decide) gagS0_23 (W) (O + tallyAt (dmaCell (fwd c 24) agR 0 24) () Nc + tallyAt (dmaCell (fwd c 23) agR 0 23) () Nc) (O + tallyAt (dmaCell (fwd c 24) agR 0 24) () Nc) rfl) $$ [TSagS0_23 TDagS0_23 SrcagS0_23 DstagS0_23 HO]
  · isplitr; · iexact ISagS0_23
    isplitr; · iexact IDagS0_23
    isplitl [SrcagS0_23]; · iexact SrcagS0_23
    isplitl [DstagS0_23]; · iexact DstagS0_23
    isplitl [HO]; · iexact HO
    isplitl [TSagS0_23]; · iexact TSagS0_23
    isplitr; · iexact RSagS0_23
    isplitl [TDagS0_23]; · iexact TDagS0_23
    iexact RDagS0_23
  iintro ⟨CSagS0_23, HO⟩
  sl_exec_parts (disch := simp only [dev116_eq, dev117_eq])
  iapply (wp_send_ag m K c 0 24 (by decide) gagS0_24 (W) (O + tallyAt (dmaCell (fwd c 24) agR 0 24) () Nc) (O) rfl) $$ [TSagS0_24 TDagS0_24 SrcagS0_24 DstagS0_24 HO]
  · isplitr; · iexact ISagS0_24
    isplitr; · iexact IDagS0_24
    isplitl [SrcagS0_24]; · iexact SrcagS0_24
    isplitl [DstagS0_24]; · iexact DstagS0_24
    isplitl [HO]; · iexact HO
    isplitl [TSagS0_24]; · iexact TSagS0_24
    isplitr; · iexact RSagS0_24
    isplitl [TDagS0_24]; · iexact TDagS0_24
    iexact RDagS0_24
  iintro ⟨CSagS0_24, HO⟩
  sl_exec_parts (disch := simp only [dev116_eq, dev117_eq])
  sl_step
  iapply Hk
  isplitl [ASagS0_23 CSagS0_23]
  · (try unfold recvRes)
    isplitr; · iexact ISagS0_23
    isplitl [ASagS0_23]; · iexact ASagS0_23
    iexact CSagS0_23
  isplitl [ASagS0_24 CSagS0_24]
  · (try unfold recvRes)
    isplitr; · iexact ISagS0_24
    isplitl [ASagS0_24]; · iexact ASagS0_24
    iexact CSagS0_24
  iexact HO

attribute [local sl_rounds] duties_dma amount_dma expect_dma in
set_option maxHeartbeats 4000000 in
theorem part61_spec (c : Dev nD) (v2 : BitVec 32) (O : CellTallies nD τ sig Unit) (W : Waits sig Unit) (Q : (BitVec 32) → sProp 𝕄) :
    iprop(copyRes m K agS agR c 0 25
      ∗ ((chunk outM c 0).view.loc (c : Thread nD τ) ↦[(chunk outM c 0).view.set]{shr 25} (chunk outM c 0).view.rep (reduced m c 0))
      ∗ (∃ f, ((chunk outM c 0).view.loc (fwd c 25 : Thread nD τ) ↦[(chunk outM c 0).view.set]{fullShare} f))
      ∗ copyRes m K agS agR c 0 26
      ∗ ((chunk outM c 0).view.loc (c : Thread nD τ) ↦[(chunk outM c 0).view.set]{shr 26} (chunk outM c 0).view.rep (reduced m c 0))
      ∗ (∃ f, ((chunk outM c 0).view.loc (fwd c 26 : Thread nD τ) ↦[(chunk outM c 0).view.set]{fullShare} f))
      ∗ copyRes m K agS agR c 0 27
      ∗ ((chunk outM c 0).view.loc (c : Thread nD τ) ↦[(chunk outM c 0).view.set]{shr 27} (chunk outM c 0).view.rep (reduced m c 0))
      ∗ (∃ f, ((chunk outM c 0).view.loc (fwd c 27 : Thread nD τ) ↦[(chunk outM c 0).view.set]{fullShare} f))
      ∗ owes (c : Thread nD τ) (O + tallyAt (dmaCell (fwd c 27) agR 0 27) () Nc + tallyAt (dmaCell (fwd c 26) agR 0 26) () Nc + tallyAt (dmaCell (fwd c 25) agR 0 25) () Nc) W
      ∗ (∀ r, (recvRes m K agS c 0 25
        ∗ recvRes m K agS c 0 26
        ∗ recvRes m K agS c 0 27
        ∗ owes (c : Thread nD τ) (O) (W)) -∗ Q r))
      ⊢ wp frame (wpE (defs₀ (F := F)) 𝒱₀ c none) Set.univ (k0_part61 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS0_25, TSagS0_25, #RSagS0_25, ASagS0_25, #IDagS0_25, TDagS0_25, #RDagS0_25⟩, SrcagS0_25, ⟨%gagS0_25, DstagS0_25⟩, ⟨#ISagS0_26, TSagS0_26, #RSagS0_26, ASagS0_26, #IDagS0_26, TDagS0_26, #RDagS0_26⟩, SrcagS0_26, ⟨%gagS0_26, DstagS0_26⟩, ⟨#ISagS0_27, TSagS0_27, #RSagS0_27, ASagS0_27, #IDagS0_27, TDagS0_27, #RDagS0_27⟩, SrcagS0_27, ⟨%gagS0_27, DstagS0_27⟩, HO, Hk⟩
  sl_exec_parts (disch := simp only [dev118_eq, dev119_eq, dev120_eq])
  iapply (wp_send_ag m K c 0 25 (by decide) gagS0_25 (W) (O + tallyAt (dmaCell (fwd c 27) agR 0 27) () Nc + tallyAt (dmaCell (fwd c 26) agR 0 26) () Nc + tallyAt (dmaCell (fwd c 25) agR 0 25) () Nc) (O + tallyAt (dmaCell (fwd c 27) agR 0 27) () Nc + tallyAt (dmaCell (fwd c 26) agR 0 26) () Nc) rfl) $$ [TSagS0_25 TDagS0_25 SrcagS0_25 DstagS0_25 HO]
  · isplitr; · iexact ISagS0_25
    isplitr; · iexact IDagS0_25
    isplitl [SrcagS0_25]; · iexact SrcagS0_25
    isplitl [DstagS0_25]; · iexact DstagS0_25
    isplitl [HO]; · iexact HO
    isplitl [TSagS0_25]; · iexact TSagS0_25
    isplitr; · iexact RSagS0_25
    isplitl [TDagS0_25]; · iexact TDagS0_25
    iexact RDagS0_25
  iintro ⟨CSagS0_25, HO⟩
  sl_exec_parts (disch := simp only [dev118_eq, dev119_eq, dev120_eq])
  iapply (wp_send_ag m K c 0 26 (by decide) gagS0_26 (W) (O + tallyAt (dmaCell (fwd c 27) agR 0 27) () Nc + tallyAt (dmaCell (fwd c 26) agR 0 26) () Nc) (O + tallyAt (dmaCell (fwd c 27) agR 0 27) () Nc) rfl) $$ [TSagS0_26 TDagS0_26 SrcagS0_26 DstagS0_26 HO]
  · isplitr; · iexact ISagS0_26
    isplitr; · iexact IDagS0_26
    isplitl [SrcagS0_26]; · iexact SrcagS0_26
    isplitl [DstagS0_26]; · iexact DstagS0_26
    isplitl [HO]; · iexact HO
    isplitl [TSagS0_26]; · iexact TSagS0_26
    isplitr; · iexact RSagS0_26
    isplitl [TDagS0_26]; · iexact TDagS0_26
    iexact RDagS0_26
  iintro ⟨CSagS0_26, HO⟩
  sl_exec_parts (disch := simp only [dev118_eq, dev119_eq, dev120_eq])
  iapply (wp_send_ag m K c 0 27 (by decide) gagS0_27 (W) (O + tallyAt (dmaCell (fwd c 27) agR 0 27) () Nc) (O) rfl) $$ [TSagS0_27 TDagS0_27 SrcagS0_27 DstagS0_27 HO]
  · isplitr; · iexact ISagS0_27
    isplitr; · iexact IDagS0_27
    isplitl [SrcagS0_27]; · iexact SrcagS0_27
    isplitl [DstagS0_27]; · iexact DstagS0_27
    isplitl [HO]; · iexact HO
    isplitl [TSagS0_27]; · iexact TSagS0_27
    isplitr; · iexact RSagS0_27
    isplitl [TDagS0_27]; · iexact TDagS0_27
    iexact RDagS0_27
  iintro ⟨CSagS0_27, HO⟩
  sl_exec_parts (disch := simp only [dev118_eq, dev119_eq, dev120_eq])
  sl_step
  iapply Hk
  isplitl [ASagS0_25 CSagS0_25]
  · (try unfold recvRes)
    isplitr; · iexact ISagS0_25
    isplitl [ASagS0_25]; · iexact ASagS0_25
    iexact CSagS0_25
  isplitl [ASagS0_26 CSagS0_26]
  · (try unfold recvRes)
    isplitr; · iexact ISagS0_26
    isplitl [ASagS0_26]; · iexact ASagS0_26
    iexact CSagS0_26
  isplitl [ASagS0_27 CSagS0_27]
  · (try unfold recvRes)
    isplitr; · iexact ISagS0_27
    isplitl [ASagS0_27]; · iexact ASagS0_27
    iexact CSagS0_27
  iexact HO

attribute [local sl_rounds] duties_dma amount_dma expect_dma in
set_option maxHeartbeats 4000000 in
theorem part62_spec (c : Dev nD) (v2 : BitVec 32) (c28_i32_1872 : BitVec 32) (O : CellTallies nD τ sig Unit) (W : Waits sig Unit) (Q : (BitVec 32) → sProp 𝕄) :
    iprop(copyRes m K agS agR c 0 28
      ∗ ((chunk outM c 0).view.loc (c : Thread nD τ) ↦[(chunk outM c 0).view.set]{shr 28} (chunk outM c 0).view.rep (reduced m c 0))
      ∗ (∃ f, ((chunk outM c 0).view.loc (fwd c 28 : Thread nD τ) ↦[(chunk outM c 0).view.set]{fullShare} f))
      ∗ copyRes m K agS agR c 0 29
      ∗ ((chunk outM c 0).view.loc (c : Thread nD τ) ↦[(chunk outM c 0).view.set]{shr 29} (chunk outM c 0).view.rep (reduced m c 0))
      ∗ (∃ f, ((chunk outM c 0).view.loc (fwd c 29 : Thread nD τ) ↦[(chunk outM c 0).view.set]{fullShare} f))
      ∗ owes (c : Thread nD τ) (O + tallyAt (dmaCell (fwd c 29) agR 0 29) () Nc + tallyAt (dmaCell (fwd c 28) agR 0 28) () Nc) W
      ∗ (∀ r, (recvRes m K agS c 0 28
        ∗ recvRes m K agS c 0 29
        ∗ owes (c : Thread nD τ) (O) (W)) -∗ Q r))
      ⊢ wp frame (wpE (defs₀ (F := F)) 𝒱₀ c none) Set.univ (k0_part62 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 c28_i32_1872) Q := by
  unfold copyRes
  iintro ⟨⟨#ISagS0_28, TSagS0_28, #RSagS0_28, ASagS0_28, #IDagS0_28, TDagS0_28, #RDagS0_28⟩, SrcagS0_28, ⟨%gagS0_28, DstagS0_28⟩, ⟨#ISagS0_29, TSagS0_29, #RSagS0_29, ASagS0_29, #IDagS0_29, TDagS0_29, #RDagS0_29⟩, SrcagS0_29, ⟨%gagS0_29, DstagS0_29⟩, HO, Hk⟩
  sl_exec_parts (disch := simp only [dev121_eq, dev122_eq])
  iapply (wp_send_ag m K c 0 28 (by decide) gagS0_28 (W) (O + tallyAt (dmaCell (fwd c 29) agR 0 29) () Nc + tallyAt (dmaCell (fwd c 28) agR 0 28) () Nc) (O + tallyAt (dmaCell (fwd c 29) agR 0 29) () Nc) rfl) $$ [TSagS0_28 TDagS0_28 SrcagS0_28 DstagS0_28 HO]
  · isplitr; · iexact ISagS0_28
    isplitr; · iexact IDagS0_28
    isplitl [SrcagS0_28]; · iexact SrcagS0_28
    isplitl [DstagS0_28]; · iexact DstagS0_28
    isplitl [HO]; · iexact HO
    isplitl [TSagS0_28]; · iexact TSagS0_28
    isplitr; · iexact RSagS0_28
    isplitl [TDagS0_28]; · iexact TDagS0_28
    iexact RDagS0_28
  iintro ⟨CSagS0_28, HO⟩
  sl_exec_parts (disch := simp only [dev121_eq, dev122_eq])
  iapply (wp_send_ag m K c 0 29 (by decide) gagS0_29 (W) (O + tallyAt (dmaCell (fwd c 29) agR 0 29) () Nc) (O) rfl) $$ [TSagS0_29 TDagS0_29 SrcagS0_29 DstagS0_29 HO]
  · isplitr; · iexact ISagS0_29
    isplitr; · iexact IDagS0_29
    isplitl [SrcagS0_29]; · iexact SrcagS0_29
    isplitl [DstagS0_29]; · iexact DstagS0_29
    isplitl [HO]; · iexact HO
    isplitl [TSagS0_29]; · iexact TSagS0_29
    isplitr; · iexact RSagS0_29
    isplitl [TDagS0_29]; · iexact TDagS0_29
    iexact RDagS0_29
  iintro ⟨CSagS0_29, HO⟩
  sl_exec_parts (disch := simp only [dev121_eq, dev122_eq])
  sl_step
  iapply Hk
  isplitl [ASagS0_28 CSagS0_28]
  · (try unfold recvRes)
    isplitr; · iexact ISagS0_28
    isplitl [ASagS0_28]; · iexact ASagS0_28
    iexact CSagS0_28
  isplitl [ASagS0_29 CSagS0_29]
  · (try unfold recvRes)
    isplitr; · iexact ISagS0_29
    isplitl [ASagS0_29]; · iexact ASagS0_29
    iexact CSagS0_29
  iexact HO

attribute [local sl_rounds] duties_dma amount_dma expect_dma in
set_option maxHeartbeats 4000000 in
theorem part63_spec (c : Dev nD) (v2 : BitVec 32) (v1615 : BitVec 32) (O : CellTallies nD τ sig Unit) (W : Waits sig Unit) (Q : (PUnit) → sProp 𝕄) :
    iprop(copyRes m K agS agR c 0 30
      ∗ ((chunk outM c 0).view.loc (c : Thread nD τ) ↦[(chunk outM c 0).view.set]{shr 30} (chunk outM c 0).view.rep (reduced m c 0))
      ∗ (∃ f, ((chunk outM c 0).view.loc (fwd c 30 : Thread nD τ) ↦[(chunk outM c 0).view.set]{fullShare} f))
      ∗ copyRes m K agS agR c 0 31
      ∗ ((chunk outM c 0).view.loc (c : Thread nD τ) ↦[(chunk outM c 0).view.set]{shr 31} (chunk outM c 0).view.rep (reduced m c 0))
      ∗ (∃ f, ((chunk outM c 0).view.loc (fwd c 31 : Thread nD τ) ↦[(chunk outM c 0).view.set]{fullShare} f))
      ∗ owes (c : Thread nD τ) (O + tallyAt (dmaCell (fwd c 31) agR 0 31) () Nc + tallyAt (dmaCell (fwd c 30) agR 0 30) () Nc) W
      ∗ (∀ r, (recvRes m K agS c 0 30
        ∗ recvRes m K agS c 0 31
        ∗ owes (c : Thread nD τ) (O) (W)) -∗ Q r))
      ⊢ wp frame (wpE (defs₀ (F := F)) 𝒱₀ c none) Set.univ (k0_part63 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1615) Q := by
  unfold copyRes
  iintro ⟨⟨#ISagS0_30, TSagS0_30, #RSagS0_30, ASagS0_30, #IDagS0_30, TDagS0_30, #RDagS0_30⟩, SrcagS0_30, ⟨%gagS0_30, DstagS0_30⟩, ⟨#ISagS0_31, TSagS0_31, #RSagS0_31, ASagS0_31, #IDagS0_31, TDagS0_31, #RDagS0_31⟩, SrcagS0_31, ⟨%gagS0_31, DstagS0_31⟩, HO, Hk⟩
  sl_exec_parts (disch := simp only [dev123_eq, dev124_eq])
  iapply (wp_send_ag m K c 0 30 (by decide) gagS0_30 (W) (O + tallyAt (dmaCell (fwd c 31) agR 0 31) () Nc + tallyAt (dmaCell (fwd c 30) agR 0 30) () Nc) (O + tallyAt (dmaCell (fwd c 31) agR 0 31) () Nc) rfl) $$ [TSagS0_30 TDagS0_30 SrcagS0_30 DstagS0_30 HO]
  · isplitr; · iexact ISagS0_30
    isplitr; · iexact IDagS0_30
    isplitl [SrcagS0_30]; · iexact SrcagS0_30
    isplitl [DstagS0_30]; · iexact DstagS0_30
    isplitl [HO]; · iexact HO
    isplitl [TSagS0_30]; · iexact TSagS0_30
    isplitr; · iexact RSagS0_30
    isplitl [TDagS0_30]; · iexact TDagS0_30
    iexact RDagS0_30
  iintro ⟨CSagS0_30, HO⟩
  sl_exec_parts (disch := simp only [dev123_eq, dev124_eq])
  iapply (wp_send_ag m K c 0 31 (by decide) gagS0_31 (W) (O + tallyAt (dmaCell (fwd c 31) agR 0 31) () Nc) (O) rfl) $$ [TSagS0_31 TDagS0_31 SrcagS0_31 DstagS0_31 HO]
  · isplitr; · iexact ISagS0_31
    isplitr; · iexact IDagS0_31
    isplitl [SrcagS0_31]; · iexact SrcagS0_31
    isplitl [DstagS0_31]; · iexact DstagS0_31
    isplitl [HO]; · iexact HO
    isplitl [TSagS0_31]; · iexact TSagS0_31
    isplitr; · iexact RSagS0_31
    isplitl [TDagS0_31]; · iexact TDagS0_31
    iexact RDagS0_31
  iintro ⟨CSagS0_31, HO⟩
  sl_exec_parts (disch := simp only [dev123_eq, dev124_eq])
  sl_step
  iapply Hk
  isplitl [ASagS0_30 CSagS0_30]
  · (try unfold recvRes)
    isplitr; · iexact ISagS0_30
    isplitl [ASagS0_30]; · iexact ASagS0_30
    iexact CSagS0_30
  isplitl [ASagS0_31 CSagS0_31]
  · (try unfold recvRes)
    isplitr; · iexact ISagS0_31
    isplitl [ASagS0_31]; · iexact ASagS0_31
    iexact CSagS0_31
  iexact HO

end Cert.Kernel.AllReduce

end
-- ==== Proof.Word.BodyCopiesD.lean ====
/-
  The copies of the gather phase, half 1 (and the first send waits of the reduce phase).
  One statement per printed part of the kernel body, over the resources that part touches and nothing else.
-/
import proofs.«900438_g7700000000000439_dist_gemm_ar_m1024_k1024_n1024_f32_gelu_v7x_i32_1_alg».proof.Proof.Word.BodyTables
noncomputable section
namespace Cert.Kernel.AllReduce
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma in
set_option maxHeartbeats 4000000 in
theorem part80_spec (c : Dev nD) (v2 : BitVec 32) (O : CellTallies nD τ sig Unit) (W : Waits sig Unit) (Q : (Σ' (v2051 : BitVec 32), BitVec 32) → sProp 𝕄) :
    iprop(copyRes m K agS agR c 1 2
      ∗ ((chunk outM c 1).view.loc (c : Thread nD τ) ↦[(chunk outM c 1).view.set]{shr 2} (chunk outM c 1).view.rep (reduced m c 1))
      ∗ (∃ f, ((chunk outM c 1).view.loc (fwd c 2 : Thread nD τ) ↦[(chunk outM c 1).view.set]{fullShare} f))
      ∗ copyRes m K agS agR c 1 3
      ∗ ((chunk outM c 1).view.loc (c : Thread nD τ) ↦[(chunk outM c 1).view.set]{shr 3} (chunk outM c 1).view.rep (reduced m c 1))
      ∗ (∃ f, ((chunk outM c 1).view.loc (fwd c 3 : Thread nD τ) ↦[(chunk outM c 1).view.set]{fullShare} f))
      ∗ copyRes m K agS agR c 1 4
      ∗ ((chunk outM c 1).view.loc (c : Thread nD τ) ↦[(chunk outM c 1).view.set]{shr 4} (chunk outM c 1).view.rep (reduced m c 1))
      ∗ (∃ f, ((chunk outM c 1).view.loc (fwd c 4 : Thread nD τ) ↦[(chunk outM c 1).view.set]{fullShare} f))
      ∗ owes (c : Thread nD τ) (O + tallyAt (dmaCell (fwd c 4) agR 1 4) () Nc + tallyAt (dmaCell (fwd c 3) agR 1 3) () Nc + tallyAt (dmaCell (fwd c 2) agR 1 2) () Nc) W
      ∗ (∀ r, (recvRes m K agS c 1 2
        ∗ recvRes m K agS c 1 3
        ∗ recvRes m K agS c 1 4
        ∗ owes (c : Thread nD τ) (O) (W)) -∗ Q r))
      ⊢ wp frame (wpE (defs₀ (F := F)) 𝒱₀ c none) Set.univ (k0_part80 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS1_2, TSagS1_2, #RSagS1_2, ASagS1_2, #IDagS1_2, TDagS1_2, #RDagS1_2⟩, SrcagS1_2, ⟨%gagS1_2, DstagS1_2⟩, ⟨#ISagS1_3, TSagS1_3, #RSagS1_3, ASagS1_3, #IDagS1_3, TDagS1_3, #RDagS1_3⟩, SrcagS1_3, ⟨%gagS1_3, DstagS1_3⟩, ⟨#ISagS1_4, TSagS1_4, #RSagS1_4, ASagS1_4, #IDagS1_4, TDagS1_4, #RDagS1_4⟩, SrcagS1_4, ⟨%gagS1_4, DstagS1_4⟩, HO, Hk⟩
  sl_exec_parts (disch := simp only [dev126_eq, dev127_eq, dev128_eq])
  iapply (wp_send_ag m K c 1 2 (by decide) gagS1_2 (W) (O + tallyAt (dmaCell (fwd c 4) agR 1 4) () Nc + tallyAt (dmaCell (fwd c 3) agR 1 3) () Nc + tallyAt (dmaCell (fwd c 2) agR 1 2) () Nc) (O + tallyAt (dmaCell (fwd c 4) agR 1 4) () Nc + tallyAt (dmaCell (fwd c 3) agR 1 3) () Nc) rfl) $$ [TSagS1_2 TDagS1_2 SrcagS1_2 DstagS1_2 HO]
  · isplitr; · iexact ISagS1_2
    isplitr; · iexact IDagS1_2
    isplitl [SrcagS1_2]; · iexact SrcagS1_2
    isplitl [DstagS1_2]; · iexact DstagS1_2
    isplitl [HO]; · iexact HO
    isplitl [TSagS1_2]; · iexact TSagS1_2
    isplitr; · iexact RSagS1_2
    isplitl [TDagS1_2]; · iexact TDagS1_2
    iexact RDagS1_2
  iintro ⟨CSagS1_2, HO⟩
  sl_exec_parts (disch := simp only [dev126_eq, dev127_eq, dev128_eq])
  iapply (wp_send_ag m K c 1 3 (by decide) gagS1_3 (W) (O + tallyAt (dmaCell (fwd c 4) agR 1 4) () Nc + tallyAt (dmaCell (fwd c 3) agR 1 3) () Nc) (O + tallyAt (dmaCell (fwd c 4) agR 1 4) () Nc) rfl) $$ [TSagS1_3 TDagS1_3 SrcagS1_3 DstagS1_3 HO]
  · isplitr; · iexact ISagS1_3
    isplitr; · iexact IDagS1_3
    isplitl [SrcagS1_3]; · iexact SrcagS1_3
    isplitl [DstagS1_3]; · iexact DstagS1_3
    isplitl [HO]; · iexact HO
    isplitl [TSagS1_3]; · iexact TSagS1_3
    isplitr; · iexact RSagS1_3
    isplitl [TDagS1_3]; · iexact TDagS1_3
    iexact RDagS1_3
  iintro ⟨CSagS1_3, HO⟩
  sl_exec_parts (disch := simp only [dev126_eq, dev127_eq, dev128_eq])
  iapply (wp_send_ag m K c 1 4 (by decide) gagS1_4 (W) (O + tallyAt (dmaCell (fwd c 4) agR 1 4) () Nc) (O) rfl) $$ [TSagS1_4 TDagS1_4 SrcagS1_4 DstagS1_4 HO]
  · isplitr; · iexact ISagS1_4
    isplitr; · iexact IDagS1_4
    isplitl [SrcagS1_4]; · iexact SrcagS1_4
    isplitl [DstagS1_4]; · iexact DstagS1_4
    isplitl [HO]; · iexact HO
    isplitl [TSagS1_4]; · iexact TSagS1_4
    isplitr; · iexact RSagS1_4
    isplitl [TDagS1_4]; · iexact TDagS1_4
    iexact RDagS1_4
  iintro ⟨CSagS1_4, HO⟩
  sl_exec_parts (disch := simp only [dev126_eq, dev127_eq, dev128_eq])
  sl_step
  iapply Hk
  isplitl [ASagS1_2 CSagS1_2]
  · (try unfold recvRes)
    isplitr; · iexact ISagS1_2
    isplitl [ASagS1_2]; · iexact ASagS1_2
    iexact CSagS1_2
  isplitl [ASagS1_3 CSagS1_3]
  · (try unfold recvRes)
    isplitr; · iexact ISagS1_3
    isplitl [ASagS1_3]; · iexact ASagS1_3
    iexact CSagS1_3
  isplitl [ASagS1_4 CSagS1_4]
  · (try unfold recvRes)
    isplitr; · iexact ISagS1_4
    isplitl [ASagS1_4]; · iexact ASagS1_4
    iexact CSagS1_4
  iexact HO

attribute [local sl_rounds] duties_dma amount_dma expect_dma in
set_option maxHeartbeats 4000000 in
theorem part81_spec (c : Dev nD) (v2 : BitVec 32) (v2051 : BitVec 32) (c32_i32_2509 : BitVec 32) (O : CellTallies nD τ sig Unit) (W : Waits sig Unit) (Q : (PUnit) → sProp 𝕄) :
    iprop(copyRes m K agS agR c 1 5
      ∗ ((chunk outM c 1).view.loc (c : Thread nD τ) ↦[(chunk outM c 1).view.set]{shr 5} (chunk outM c 1).view.rep (reduced m c 1))
      ∗ (∃ f, ((chunk outM c 1).view.loc (fwd c 5 : Thread nD τ) ↦[(chunk outM c 1).view.set]{fullShare} f))
      ∗ copyRes m K agS agR c 1 6
      ∗ ((chunk outM c 1).view.loc (c : Thread nD τ) ↦[(chunk outM c 1).view.set]{shr 6} (chunk outM c 1).view.rep (reduced m c 1))
      ∗ (∃ f, ((chunk outM c 1).view.loc (fwd c 6 : Thread nD τ) ↦[(chunk outM c 1).view.set]{fullShare} f))
      ∗ owes (c : Thread nD τ) (O + tallyAt (dmaCell (fwd c 6) agR 1 6) () Nc + tallyAt (dmaCell (fwd c 5) agR 1 5) () Nc) W
      ∗ (∀ r, (recvRes m K agS c 1 5
        ∗ recvRes m K agS c 1 6
        ∗ owes (c : Thread nD τ) (O) (W)) -∗ Q r))
      ⊢ wp frame (wpE (defs₀ (F := F)) 𝒱₀ c none) Set.univ (k0_part81 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2051 c32_i32_2509) Q := by
  unfold copyRes
  iintro ⟨⟨#ISagS1_5, TSagS1_5, #RSagS1_5, ASagS1_5, #IDagS1_5, TDagS1_5, #RDagS1_5⟩, SrcagS1_5, ⟨%gagS1_5, DstagS1_5⟩, ⟨#ISagS1_6, TSagS1_6, #RSagS1_6, ASagS1_6, #IDagS1_6, TDagS1_6, #RDagS1_6⟩, SrcagS1_6, ⟨%gagS1_6, DstagS1_6⟩, HO, Hk⟩
  sl_exec_parts (disch := simp only [dev129_eq, dev130_eq])
  iapply (wp_send_ag m K c 1 5 (by decide) gagS1_5 (W) (O + tallyAt (dmaCell (fwd c 6) agR 1 6) () Nc + tallyAt (dmaCell (fwd c 5) agR 1 5) () Nc) (O + tallyAt (dmaCell (fwd c 6) agR 1 6) () Nc) rfl) $$ [TSagS1_5 TDagS1_5 SrcagS1_5 DstagS1_5 HO]
  · isplitr; · iexact ISagS1_5
    isplitr; · iexact IDagS1_5
    isplitl [SrcagS1_5]; · iexact SrcagS1_5
    isplitl [DstagS1_5]; · iexact DstagS1_5
    isplitl [HO]; · iexact HO
    isplitl [TSagS1_5]; · iexact TSagS1_5
    isplitr; · iexact RSagS1_5
    isplitl [TDagS1_5]; · iexact TDagS1_5
    iexact RDagS1_5
  iintro ⟨CSagS1_5, HO⟩
  sl_exec_parts (disch := simp only [dev129_eq, dev130_eq])
  iapply (wp_send_ag m K c 1 6 (by decide) gagS1_6 (W) (O + tallyAt (dmaCell (fwd c 6) agR 1 6) () Nc) (O) rfl) $$ [TSagS1_6 TDagS1_6 SrcagS1_6 DstagS1_6 HO]
  · isplitr; · iexact ISagS1_6
    isplitr; · iexact IDagS1_6
    isplitl [SrcagS1_6]; · iexact SrcagS1_6
    isplitl [DstagS1_6]; · iexact DstagS1_6
    isplitl [HO]; · iexact HO
    isplitl [TSagS1_6]; · iexact TSagS1_6
    isplitr; · iexact RSagS1_6
    isplitl [TDagS1_6]; · iexact TDagS1_6
    iexact RDagS1_6
  iintro ⟨CSagS1_6, HO⟩
  sl_exec_parts (disch := simp only [dev129_eq, dev130_eq])
  sl_step
  iapply Hk
  isplitl [ASagS1_5 CSagS1_5]
  · (try unfold recvRes)
    isplitr; · iexact ISagS1_5
    isplitl [ASagS1_5]; · iexact ASagS1_5
    iexact CSagS1_5
  isplitl [ASagS1_6 CSagS1_6]
  · (try unfold recvRes)
    isplitr; · iexact ISagS1_6
    isplitl [ASagS1_6]; · iexact ASagS1_6
    iexact CSagS1_6
  iexact HO

attribute [local sl_rounds] duties_dma amount_dma expect_dma in
set_option maxHeartbeats 4000000 in
theorem part82_spec (c : Dev nD) (v2 : BitVec 32) (O : CellTallies nD τ sig Unit) (W : Waits sig Unit) (Q : (BitVec 32) → sProp 𝕄) :
    iprop(copyRes m K agS agR c 1 7
      ∗ ((chunk outM c 1).view.loc (c : Thread nD τ) ↦[(chunk outM c 1).view.set]{shr 7} (chunk outM c 1).view.rep (reduced m c 1))
      ∗ (∃ f, ((chunk outM c 1).view.loc (fwd c 7 : Thread nD τ) ↦[(chunk outM c 1).view.set]{fullShare} f))
      ∗ copyRes m K agS agR c 1 8
      ∗ ((chunk outM c 1).view.loc (c : Thread nD τ) ↦[(chunk outM c 1).view.set]{shr 8} (chunk outM c 1).view.rep (reduced m c 1))
      ∗ (∃ f, ((chunk outM c 1).view.loc (fwd c 8 : Thread nD τ) ↦[(chunk outM c 1).view.set]{fullShare} f))
      ∗ copyRes m K agS agR c 1 9
      ∗ ((chunk outM c 1).view.loc (c : Thread nD τ) ↦[(chunk outM c 1).view.set]{shr 9} (chunk outM c 1).view.rep (reduced m c 1))
      ∗ (∃ f, ((chunk outM c 1).view.loc (fwd c 9 : Thread nD τ) ↦[(chunk outM c 1).view.set]{fullShare} f))
      ∗ owes (c : Thread nD τ) (O + tallyAt (dmaCell (fwd c 9) agR 1 9) () Nc + tallyAt (dmaCell (fwd c 8) agR 1 8) () Nc + tallyAt (dmaCell (fwd c 7) agR 1 7) () Nc) W
      ∗ (∀ r, (recvRes m K agS c 1 7
        ∗ recvRes m K agS c 1 8
        ∗ recvRes m K agS c 1 9
        ∗ owes (c : Thread nD τ) (O) (W)) -∗ Q r))
      ⊢ wp frame (wpE (defs₀ (F := F)) 𝒱₀ c none) Set.univ (k0_part82 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS1_7, TSagS1_7, #RSagS1_7, ASagS1_7, #IDagS1_7, TDagS1_7, #RDagS1_7⟩, SrcagS1_7, ⟨%gagS1_7, DstagS1_7⟩, ⟨#ISagS1_8, TSagS1_8, #RSagS1_8, ASagS1_8, #IDagS1_8, TDagS1_8, #RDagS1_8⟩, SrcagS1_8, ⟨%gagS1_8, DstagS1_8⟩, ⟨#ISagS1_9, TSagS1_9, #RSagS1_9, ASagS1_9, #IDagS1_9, TDagS1_9, #RDagS1_9⟩, SrcagS1_9, ⟨%gagS1_9, DstagS1_9⟩, HO, Hk⟩
  sl_exec_parts (disch := simp only [dev131_eq, dev132_eq, dev133_eq])
  iapply (wp_send_ag m K c 1 7 (by decide) gagS1_7 (W) (O + tallyAt (dmaCell (fwd c 9) agR 1 9) () Nc + tallyAt (dmaCell (fwd c 8) agR 1 8) () Nc + tallyAt (dmaCell (fwd c 7) agR 1 7) () Nc) (O + tallyAt (dmaCell (fwd c 9) agR 1 9) () Nc + tallyAt (dmaCell (fwd c 8) agR 1 8) () Nc) rfl) $$ [TSagS1_7 TDagS1_7 SrcagS1_7 DstagS1_7 HO]
  · isplitr; · iexact ISagS1_7
    isplitr; · iexact IDagS1_7
    isplitl [SrcagS1_7]; · iexact SrcagS1_7
    isplitl [DstagS1_7]; · iexact DstagS1_7
    isplitl [HO]; · iexact HO
    isplitl [TSagS1_7]; · iexact TSagS1_7
    isplitr; · iexact RSagS1_7
    isplitl [TDagS1_7]; · iexact TDagS1_7
    iexact RDagS1_7
  iintro ⟨CSagS1_7, HO⟩
  sl_exec_parts (disch := simp only [dev131_eq, dev132_eq, dev133_eq])
  iapply (wp_send_ag m K c 1 8 (by decide) gagS1_8 (W) (O + tallyAt (dmaCell (fwd c 9) agR 1 9) () Nc + tallyAt (dmaCell (fwd c 8) agR 1 8) () Nc) (O + tallyAt (dmaCell (fwd c 9) agR 1 9) () Nc) rfl) $$ [TSagS1_8 TDagS1_8 SrcagS1_8 DstagS1_8 HO]
  · isplitr; · iexact ISagS1_8
    isplitr; · iexact IDagS1_8
    isplitl [SrcagS1_8]; · iexact SrcagS1_8
    isplitl [DstagS1_8]; · iexact DstagS1_8
    isplitl [HO]; · iexact HO
    isplitl [TSagS1_8]; · iexact TSagS1_8
    isplitr; · iexact RSagS1_8
    isplitl [TDagS1_8]; · iexact TDagS1_8
    iexact RDagS1_8
  iintro ⟨CSagS1_8, HO⟩
  sl_exec_parts (disch := simp only [dev131_eq, dev132_eq, dev133_eq])
  iapply (wp_send_ag m K c 1 9 (by decide) gagS1_9 (W) (O + tallyAt (dmaCell (fwd c 9) agR 1 9) () Nc) (O) rfl) $$ [TSagS1_9 TDagS1_9 SrcagS1_9 DstagS1_9 HO]
  · isplitr; · iexact ISagS1_9
    isplitr; · iexact IDagS1_9
    isplitl [SrcagS1_9]; · iexact SrcagS1_9
    isplitl [DstagS1_9]; · iexact DstagS1_9
    isplitl [HO]; · iexact HO
    isplitl [TSagS1_9]; · iexact TSagS1_9
    isplitr; · iexact RSagS1_9
    isplitl [TDagS1_9]; · iexact TDagS1_9
    iexact RDagS1_9
  iintro ⟨CSagS1_9, HO⟩
  sl_exec_parts (disch := simp only [dev131_eq, dev132_eq, dev133_eq])
  sl_step
  iapply Hk
  isplitl [ASagS1_7 CSagS1_7]
  · (try unfold recvRes)
    isplitr; · iexact ISagS1_7
    isplitl [ASagS1_7]; · iexact ASagS1_7
    iexact CSagS1_7
  isplitl [ASagS1_8 CSagS1_8]
  · (try unfold recvRes)
    isplitr; · iexact ISagS1_8
    isplitl [ASagS1_8]; · iexact ASagS1_8
    iexact CSagS1_8
  isplitl [ASagS1_9 CSagS1_9]
  · (try unfold recvRes)
    isplitr; · iexact ISagS1_9
    isplitl [ASagS1_9]; · iexact ASagS1_9
    iexact CSagS1_9
  iexact HO

attribute [local sl_rounds] duties_dma amount_dma expect_dma in
set_option maxHeartbeats 4000000 in
theorem part83_spec (c : Dev nD) (v2 : BitVec 32) (v2110 : BitVec 32) (O : CellTallies nD τ sig Unit) (W : Waits sig Unit) (Q : (BitVec 32) → sProp 𝕄) :
    iprop(copyRes m K agS agR c 1 10
      ∗ ((chunk outM c 1).view.loc (c : Thread nD τ) ↦[(chunk outM c 1).view.set]{shr 10} (chunk outM c 1).view.rep (reduced m c 1))
      ∗ (∃ f, ((chunk outM c 1).view.loc (fwd c 10 : Thread nD τ) ↦[(chunk outM c 1).view.set]{fullShare} f))
      ∗ copyRes m K agS agR c 1 11
      ∗ ((chunk outM c 1).view.loc (c : Thread nD τ) ↦[(chunk outM c 1).view.set]{shr 11} (chunk outM c 1).view.rep (reduced m c 1))
      ∗ (∃ f, ((chunk outM c 1).view.loc (fwd c 11 : Thread nD τ) ↦[(chunk outM c 1).view.set]{fullShare} f))
      ∗ owes (c : Thread nD τ) (O + tallyAt (dmaCell (fwd c 11) agR 1 11) () Nc + tallyAt (dmaCell (fwd c 10) agR 1 10) () Nc) W
      ∗ (∀ r, (recvRes m K agS c 1 10
        ∗ recvRes m K agS c 1 11
        ∗ owes (c : Thread nD τ) (O) (W)) -∗ Q r))
      ⊢ wp frame (wpE (defs₀ (F := F)) 𝒱₀ c none) Set.univ (k0_part83 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2110) Q := by
  unfold copyRes
  iintro ⟨⟨#ISagS1_10, TSagS1_10, #RSagS1_10, ASagS1_10, #IDagS1_10, TDagS1_10, #RDagS1_10⟩, SrcagS1_10, ⟨%gagS1_10, DstagS1_10⟩, ⟨#ISagS1_11, TSagS1_11, #RSagS1_11, ASagS1_11, #IDagS1_11, TDagS1_11, #RDagS1_11⟩, SrcagS1_11, ⟨%gagS1_11, DstagS1_11⟩, HO, Hk⟩
  sl_exec_parts (disch := simp only [dev134_eq, dev135_eq])
  iapply (wp_send_ag m K c 1 10 (by decide) gagS1_10 (W) (O + tallyAt (dmaCell (fwd c 11) agR 1 11) () Nc + tallyAt (dmaCell (fwd c 10) agR 1 10) () Nc) (O + tallyAt (dmaCell (fwd c 11) agR 1 11) () Nc) rfl) $$ [TSagS1_10 TDagS1_10 SrcagS1_10 DstagS1_10 HO]
  · isplitr; · iexact ISagS1_10
    isplitr; · iexact IDagS1_10
    isplitl [SrcagS1_10]; · iexact SrcagS1_10
    isplitl [DstagS1_10]; · iexact DstagS1_10
    isplitl [HO]; · iexact HO
    isplitl [TSagS1_10]; · iexact TSagS1_10
    isplitr; · iexact RSagS1_10
    isplitl [TDagS1_10]; · iexact TDagS1_10
    iexact RDagS1_10
  iintro ⟨CSagS1_10, HO⟩
  sl_exec_parts (disch := simp only [dev134_eq, dev135_eq])
  iapply (wp_send_ag m K c 1 11 (by decide) gagS1_11 (W) (O + tallyAt (dmaCell (fwd c 11) agR 1 11) () Nc) (O) rfl) $$ [TSagS1_11 TDagS1_11 SrcagS1_11 DstagS1_11 HO]
  · isplitr; · iexact ISagS1_11
    isplitr; · iexact IDagS1_11
    isplitl [SrcagS1_11]; · iexact SrcagS1_11
    isplitl [DstagS1_11]; · iexact DstagS1_11
    isplitl [HO]; · iexact HO
    isplitl [TSagS1_11]; · iexact TSagS1_11
    isplitr; · iexact RSagS1_11
    isplitl [TDagS1_11]; · iexact TDagS1_11
    iexact RDagS1_11
  iintro ⟨CSagS1_11, HO⟩
  sl_exec_parts (disch := simp only [dev134_eq, dev135_eq])
  sl_step
  iapply Hk
  isplitl [ASagS1_10 CSagS1_10]
  · (try unfold recvRes)
    isplitr; · iexact ISagS1_10
    isplitl [ASagS1_10]; · iexact ASagS1_10
    iexact CSagS1_10
  isplitl [ASagS1_11 CSagS1_11]
  · (try unfold recvRes)
    isplitr; · iexact ISagS1_11
    isplitl [ASagS1_11]; · iexact ASagS1_11
    iexact CSagS1_11
  iexact HO

attribute [local sl_rounds] duties_dma amount_dma expect_dma in
set_option maxHeartbeats 4000000 in
theorem part84_spec (c : Dev nD) (v2 : BitVec 32) (v2135 : BitVec 32) (O : CellTallies nD τ sig Unit) (W : Waits sig Unit) (Q : (PUnit) → sProp 𝕄) :
    iprop(copyRes m K agS agR c 1 12
      ∗ ((chunk outM c 1).view.loc (c : Thread nD τ) ↦[(chunk outM c 1).view.set]{shr 12} (chunk outM c 1).view.rep (reduced m c 1))
      ∗ (∃ f, ((chunk outM c 1).view.loc (fwd c 12 : Thread nD τ) ↦[(chunk outM c 1).view.set]{fullShare} f))
      ∗ copyRes m K agS agR c 1 13
      ∗ ((chunk outM c 1).view.loc (c : Thread nD τ) ↦[(chunk outM c 1).view.set]{shr 13} (chunk outM c 1).view.rep (reduced m c 1))
      ∗ (∃ f, ((chunk outM c 1).view.loc (fwd c 13 : Thread nD τ) ↦[(chunk outM c 1).view.set]{fullShare} f))
      ∗ owes (c : Thread nD τ) (O + tallyAt (dmaCell (fwd c 13) agR 1 13) () Nc + tallyAt (dmaCell (fwd c 12) agR 1 12) () Nc) W
      ∗ (∀ r, (recvRes m K agS c 1 12
        ∗ recvRes m K agS c 1 13
        ∗ owes (c : Thread nD τ) (O) (W)) -∗ Q r))
      ⊢ wp frame (wpE (defs₀ (F := F)) 𝒱₀ c none) Set.univ (k0_part84 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2135) Q := by
  unfold copyRes
  iintro ⟨⟨#ISagS1_12, TSagS1_12, #RSagS1_12, ASagS1_12, #IDagS1_12, TDagS1_12, #RDagS1_12⟩, SrcagS1_12, ⟨%gagS1_12, DstagS1_12⟩, ⟨#ISagS1_13, TSagS1_13, #RSagS1_13, ASagS1_13, #IDagS1_13, TDagS1_13, #RDagS1_13⟩, SrcagS1_13, ⟨%gagS1_13, DstagS1_13⟩, HO, Hk⟩
  sl_exec_parts (disch := simp only [dev136_eq, dev137_eq])
  iapply (wp_send_ag m K c 1 12 (by decide) gagS1_12 (W) (O + tallyAt (dmaCell (fwd c 13) agR 1 13) () Nc + tallyAt (dmaCell (fwd c 12) agR 1 12) () Nc) (O + tallyAt (dmaCell (fwd c 13) agR 1 13) () Nc) rfl) $$ [TSagS1_12 TDagS1_12 SrcagS1_12 DstagS1_12 HO]
  · isplitr; · iexact ISagS1_12
    isplitr; · iexact IDagS1_12
    isplitl [SrcagS1_12]; · iexact SrcagS1_12
    isplitl [DstagS1_12]; · iexact DstagS1_12
    isplitl [HO]; · iexact HO
    isplitl [TSagS1_12]; · iexact TSagS1_12
    isplitr; · iexact RSagS1_12
    isplitl [TDagS1_12]; · iexact TDagS1_12
    iexact RDagS1_12
  iintro ⟨CSagS1_12, HO⟩
  sl_exec_parts (disch := simp only [dev136_eq, dev137_eq])
  iapply (wp_send_ag m K c 1 13 (by decide) gagS1_13 (W) (O + tallyAt (dmaCell (fwd c 13) agR 1 13) () Nc) (O) rfl) $$ [TSagS1_13 TDagS1_13 SrcagS1_13 DstagS1_13 HO]
  · isplitr; · iexact ISagS1_13
    isplitr; · iexact IDagS1_13
    isplitl [SrcagS1_13]; · iexact SrcagS1_13
    isplitl [DstagS1_13]; · iexact DstagS1_13
    isplitl [HO]; · iexact HO
    isplitl [TSagS1_13]; · iexact TSagS1_13
    isplitr; · iexact RSagS1_13
    isplitl [TDagS1_13]; · iexact TDagS1_13
    iexact RDagS1_13
  iintro ⟨CSagS1_13, HO⟩
  sl_exec_parts (disch := simp only [dev136_eq, dev137_eq])
  sl_step
  iapply Hk
  isplitl [ASagS1_12 CSagS1_12]
  · (try unfold recvRes)
    isplitr; · iexact ISagS1_12
    isplitl [ASagS1_12]; · iexact ASagS1_12
    iexact CSagS1_12
  isplitl [ASagS1_13 CSagS1_13]
  · (try unfold recvRes)
    isplitr; · iexact ISagS1_13
    isplitl [ASagS1_13]; · iexact ASagS1_13
    iexact CSagS1_13
  iexact HO

attribute [local sl_rounds] duties_dma amount_dma expect_dma in
set_option maxHeartbeats 4000000 in
theorem part85_spec (c : Dev nD) (v2 : BitVec 32) (O : CellTallies nD τ sig Unit) (W : Waits sig Unit) (Q : (Σ' (v2195 : BitVec 32), BitVec 32) → sProp 𝕄) :
    iprop(copyRes m K agS agR c 1 14
      ∗ ((chunk outM c 1).view.loc (c : Thread nD τ) ↦[(chunk outM c 1).view.set]{shr 14} (chunk outM c 1).view.rep (reduced m c 1))
      ∗ (∃ f, ((chunk outM c 1).view.loc (fwd c 14 : Thread nD τ) ↦[(chunk outM c 1).view.set]{fullShare} f))
      ∗ copyRes m K agS agR c 1 15
      ∗ ((chunk outM c 1).view.loc (c : Thread nD τ) ↦[(chunk outM c 1).view.set]{shr 15} (chunk outM c 1).view.rep (reduced m c 1))
      ∗ (∃ f, ((chunk outM c 1).view.loc (fwd c 15 : Thread nD τ) ↦[(chunk outM c 1).view.set]{fullShare} f))
      ∗ copyRes m K agS agR c 1 16
      ∗ ((chunk outM c 1).view.loc (c : Thread nD τ) ↦[(chunk outM c 1).view.set]{shr 16} (chunk outM c 1).view.rep (reduced m c 1))
      ∗ (∃ f, ((chunk outM c 1).view.loc (fwd c 16 : Thread nD τ) ↦[(chunk outM c 1).view.set]{fullShare} f))
      ∗ owes (c : Thread nD τ) (O + tallyAt (dmaCell (fwd c 16) agR 1 16) () Nc + tallyAt (dmaCell (fwd c 15) agR 1 15) () Nc + tallyAt (dmaCell (fwd c 14) agR 1 14) () Nc) W
      ∗ (∀ r, (recvRes m K agS c 1 14
        ∗ recvRes m K agS c 1 15
        ∗ recvRes m K agS c 1 16
        ∗ owes (c : Thread nD τ) (O) (W)) -∗ Q r))
      ⊢ wp frame (wpE (defs₀ (F := F)) 𝒱₀ c none) Set.univ (k0_part85 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS1_14, TSagS1_14, #RSagS1_14, ASagS1_14, #IDagS1_14, TDagS1_14, #RDagS1_14⟩, SrcagS1_14, ⟨%gagS1_14, DstagS1_14⟩, ⟨#ISagS1_15, TSagS1_15, #RSagS1_15, ASagS1_15, #IDagS1_15, TDagS1_15, #RDagS1_15⟩, SrcagS1_15, ⟨%gagS1_15, DstagS1_15⟩, ⟨#ISagS1_16, TSagS1_16, #RSagS1_16, ASagS1_16, #IDagS1_16, TDagS1_16, #RDagS1_16⟩, SrcagS1_16, ⟨%gagS1_16, DstagS1_16⟩, HO, Hk⟩
  sl_exec_parts (disch := simp only [dev138_eq, dev139_eq, dev140_eq])
  iapply (wp_send_ag m K c 1 14 (by decide) gagS1_14 (W) (O + tallyAt (dmaCell (fwd c 16) agR 1 16) () Nc + tallyAt (dmaCell (fwd c 15) agR 1 15) () Nc + tallyAt (dmaCell (fwd c 14) agR 1 14) () Nc) (O + tallyAt (dmaCell (fwd c 16) agR 1 16) () Nc + tallyAt (dmaCell (fwd c 15) agR 1 15) () Nc) rfl) $$ [TSagS1_14 TDagS1_14 SrcagS1_14 DstagS1_14 HO]
  · isplitr; · iexact ISagS1_14
    isplitr; · iexact IDagS1_14
    isplitl [SrcagS1_14]; · iexact SrcagS1_14
    isplitl [DstagS1_14]; · iexact DstagS1_14
    isplitl [HO]; · iexact HO
    isplitl [TSagS1_14]; · iexact TSagS1_14
    isplitr; · iexact RSagS1_14
    isplitl [TDagS1_14]; · iexact TDagS1_14
    iexact RDagS1_14
  iintro ⟨CSagS1_14, HO⟩
  sl_exec_parts (disch := simp only [dev138_eq, dev139_eq, dev140_eq])
  iapply (wp_send_ag m K c 1 15 (by decide) gagS1_15 (W) (O + tallyAt (dmaCell (fwd c 16) agR 1 16) () Nc + tallyAt (dmaCell (fwd c 15) agR 1 15) () Nc) (O + tallyAt (dmaCell (fwd c 16) agR 1 16) () Nc) rfl) $$ [TSagS1_15 TDagS1_15 SrcagS1_15 DstagS1_15 HO]
  · isplitr; · iexact ISagS1_15
    isplitr; · iexact IDagS1_15
    isplitl [SrcagS1_15]; · iexact SrcagS1_15
    isplitl [DstagS1_15]; · iexact DstagS1_15
    isplitl [HO]; · iexact HO
    isplitl [TSagS1_15]; · iexact TSagS1_15
    isplitr; · iexact RSagS1_15
    isplitl [TDagS1_15]; · iexact TDagS1_15
    iexact RDagS1_15
  iintro ⟨CSagS1_15, HO⟩
  sl_exec_parts (disch := simp only [dev138_eq, dev139_eq, dev140_eq])
  iapply (wp_send_ag m K c 1 16 (by decide) gagS1_16 (W) (O + tallyAt (dmaCell (fwd c 16) agR 1 16) () Nc) (O) rfl) $$ [TSagS1_16 TDagS1_16 SrcagS1_16 DstagS1_16 HO]
  · isplitr; · iexact ISagS1_16
    isplitr; · iexact IDagS1_16
    isplitl [SrcagS1_16]; · iexact SrcagS1_16
    isplitl [DstagS1_16]; · iexact DstagS1_16
    isplitl [HO]; · iexact HO
    isplitl [TSagS1_16]; · iexact TSagS1_16
    isplitr; · iexact RSagS1_16
    isplitl [TDagS1_16]; · iexact TDagS1_16
    iexact RDagS1_16
  iintro ⟨CSagS1_16, HO⟩
  sl_exec_parts (disch := simp only [dev138_eq, dev139_eq, dev140_eq])
  sl_step
  iapply Hk
  isplitl [ASagS1_14 CSagS1_14]
  · (try unfold recvRes)
    isplitr; · iexact ISagS1_14
    isplitl [ASagS1_14]; · iexact ASagS1_14
    iexact CSagS1_14
  isplitl [ASagS1_15 CSagS1_15]
  · (try unfold recvRes)
    isplitr; · iexact ISagS1_15
    isplitl [ASagS1_15]; · iexact ASagS1_15
    iexact CSagS1_15
  isplitl [ASagS1_16 CSagS1_16]
  · (try unfold recvRes)
    isplitr; · iexact ISagS1_16
    isplitl [ASagS1_16]; · iexact ASagS1_16
    iexact CSagS1_16
  iexact HO

attribute [local sl_rounds] duties_dma amount_dma expect_dma in
set_option maxHeartbeats 4000000 in
theorem part86_spec (c : Dev nD) (v2 : BitVec 32) (v2195 : BitVec 32) (c32_i32_2653 : BitVec 32) (O : CellTallies nD τ sig Unit) (W : Waits sig Unit) (Q : (PUnit) → sProp 𝕄) :
    iprop(copyRes m K agS agR c 1 17
      ∗ ((chunk outM c 1).view.loc (c : Thread nD τ) ↦[(chunk outM c 1).view.set]{shr 17} (chunk outM c 1).view.rep (reduced m c 1))
      ∗ (∃ f, ((chunk outM c 1).view.loc (fwd c 17 : Thread nD τ) ↦[(chunk outM c 1).view.set]{fullShare} f))
      ∗ copyRes m K agS agR c 1 18
      ∗ ((chunk outM c 1).view.loc (c : Thread nD τ) ↦[(chunk outM c 1).view.set]{shr 18} (chunk outM c 1).view.rep (reduced m c 1))
      ∗ (∃ f, ((chunk outM c 1).view.loc (fwd c 18 : Thread nD τ) ↦[(chunk outM c 1).view.set]{fullShare} f))
      ∗ owes (c : Thread nD τ) (O + tallyAt (dmaCell (fwd c 18) agR 1 18) () Nc + tallyAt (dmaCell (fwd c 17) agR 1 17) () Nc) W
      ∗ (∀ r, (recvRes m K agS c 1 17
        ∗ recvRes m K agS c 1 18
        ∗ owes (c : Thread nD τ) (O) (W)) -∗ Q r))
      ⊢ wp frame (wpE (defs₀ (F := F)) 𝒱₀ c none) Set.univ (k0_part86 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2195 c32_i32_2653) Q := by
  unfold copyRes
  iintro ⟨⟨#ISagS1_17, TSagS1_17, #RSagS1_17, ASagS1_17, #IDagS1_17, TDagS1_17, #RDagS1_17⟩, SrcagS1_17, ⟨%gagS1_17, DstagS1_17⟩, ⟨#ISagS1_18, TSagS1_18, #RSagS1_18, ASagS1_18, #IDagS1_18, TDagS1_18, #RDagS1_18⟩, SrcagS1_18, ⟨%gagS1_18, DstagS1_18⟩, HO, Hk⟩
  sl_exec_parts (disch := simp only [dev141_eq, dev142_eq])
  iapply (wp_send_ag m K c 1 17 (by decide) gagS1_17 (W) (O + tallyAt (dmaCell (fwd c 18) agR 1 18) () Nc + tallyAt (dmaCell (fwd c 17) agR 1 17) () Nc) (O + tallyAt (dmaCell (fwd c 18) agR 1 18) () Nc) rfl) $$ [TSagS1_17 TDagS1_17 SrcagS1_17 DstagS1_17 HO]
  · isplitr; · iexact ISagS1_17
    isplitr; · iexact IDagS1_17
    isplitl [SrcagS1_17]; · iexact SrcagS1_17
    isplitl [DstagS1_17]; · iexact DstagS1_17
    isplitl [HO]; · iexact HO
    isplitl [TSagS1_17]; · iexact TSagS1_17
    isplitr; · iexact RSagS1_17
    isplitl [TDagS1_17]; · iexact TDagS1_17
    iexact RDagS1_17
  iintro ⟨CSagS1_17, HO⟩
  sl_exec_parts (disch := simp only [dev141_eq, dev142_eq])
  iapply (wp_send_ag m K c 1 18 (by decide) gagS1_18 (W) (O + tallyAt (dmaCell (fwd c 18) agR 1 18) () Nc) (O) rfl) $$ [TSagS1_18 TDagS1_18 SrcagS1_18 DstagS1_18 HO]
  · isplitr; · iexact ISagS1_18
    isplitr; · iexact IDagS1_18
    isplitl [SrcagS1_18]; · iexact SrcagS1_18
    isplitl [DstagS1_18]; · iexact DstagS1_18
    isplitl [HO]; · iexact HO
    isplitl [TSagS1_18]; · iexact TSagS1_18
    isplitr; · iexact RSagS1_18
    isplitl [TDagS1_18]; · iexact TDagS1_18
    iexact RDagS1_18
  iintro ⟨CSagS1_18, HO⟩
  sl_exec_parts (disch := simp only [dev141_eq, dev142_eq])
  sl_step
  iapply Hk
  isplitl [ASagS1_17 CSagS1_17]
  · (try unfold recvRes)
    isplitr; · iexact ISagS1_17
    isplitl [ASagS1_17]; · iexact ASagS1_17
    iexact CSagS1_17
  isplitl [ASagS1_18 CSagS1_18]
  · (try unfold recvRes)
    isplitr; · iexact ISagS1_18
    isplitl [ASagS1_18]; · iexact ASagS1_18
    iexact CSagS1_18
  iexact HO

attribute [local sl_rounds] duties_dma amount_dma expect_dma in
set_option maxHeartbeats 4000000 in
theorem part87_spec (c : Dev nD) (v2 : BitVec 32) (O : CellTallies nD τ sig Unit) (W : Waits sig Unit) (Q : (BitVec 32) → sProp 𝕄) :
    iprop(copyRes m K agS agR c 1 19
      ∗ ((chunk outM c 1).view.loc (c : Thread nD τ) ↦[(chunk outM c 1).view.set]{shr 19} (chunk outM c 1).view.rep (reduced m c 1))
      ∗ (∃ f, ((chunk outM c 1).view.loc (fwd c 19 : Thread nD τ) ↦[(chunk outM c 1).view.set]{fullShare} f))
      ∗ copyRes m K agS agR c 1 20
      ∗ ((chunk outM c 1).view.loc (c : Thread nD τ) ↦[(chunk outM c 1).view.set]{shr 20} (chunk outM c 1).view.rep (reduced m c 1))
      ∗ (∃ f, ((chunk outM c 1).view.loc (fwd c 20 : Thread nD τ) ↦[(chunk outM c 1).view.set]{fullShare} f))
      ∗ copyRes m K agS agR c 1 21
      ∗ ((chunk outM c 1).view.loc (c : Thread nD τ) ↦[(chunk outM c 1).view.set]{shr 21} (chunk outM c 1).view.rep (reduced m c 1))
      ∗ (∃ f, ((chunk outM c 1).view.loc (fwd c 21 : Thread nD τ) ↦[(chunk outM c 1).view.set]{fullShare} f))
      ∗ owes (c : Thread nD τ) (O + tallyAt (dmaCell (fwd c 21) agR 1 21) () Nc + tallyAt (dmaCell (fwd c 20) agR 1 20) () Nc + tallyAt (dmaCell (fwd c 19) agR 1 19) () Nc) W
      ∗ (∀ r, (recvRes m K agS c 1 19
        ∗ recvRes m K agS c 1 20
        ∗ recvRes m K agS c 1 21
        ∗ owes (c : Thread nD τ) (O) (W)) -∗ Q r))
      ⊢ wp frame (wpE (defs₀ (F := F)) 𝒱₀ c none) Set.univ (k0_part87 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS1_19, TSagS1_19, #RSagS1_19, ASagS1_19, #IDagS1_19, TDagS1_19, #RDagS1_19⟩, SrcagS1_19, ⟨%gagS1_19, DstagS1_19⟩, ⟨#ISagS1_20, TSagS1_20, #RSagS1_20, ASagS1_20, #IDagS1_20, TDagS1_20, #RDagS1_20⟩, SrcagS1_20, ⟨%gagS1_20, DstagS1_20⟩, ⟨#ISagS1_21, TSagS1_21, #RSagS1_21, ASagS1_21, #IDagS1_21, TDagS1_21, #RDagS1_21⟩, SrcagS1_21, ⟨%gagS1_21, DstagS1_21⟩, HO, Hk⟩
  sl_exec_parts (disch := simp only [dev143_eq, dev144_eq, dev145_eq])
  iapply (wp_send_ag m K c 1 19 (by decide) gagS1_19 (W) (O + tallyAt (dmaCell (fwd c 21) agR 1 21) () Nc + tallyAt (dmaCell (fwd c 20) agR 1 20) () Nc + tallyAt (dmaCell (fwd c 19) agR 1 19) () Nc) (O + tallyAt (dmaCell (fwd c 21) agR 1 21) () Nc + tallyAt (dmaCell (fwd c 20) agR 1 20) () Nc) rfl) $$ [TSagS1_19 TDagS1_19 SrcagS1_19 DstagS1_19 HO]
  · isplitr; · iexact ISagS1_19
    isplitr; · iexact IDagS1_19
    isplitl [SrcagS1_19]; · iexact SrcagS1_19
    isplitl [DstagS1_19]; · iexact DstagS1_19
    isplitl [HO]; · iexact HO
    isplitl [TSagS1_19]; · iexact TSagS1_19
    isplitr; · iexact RSagS1_19
    isplitl [TDagS1_19]; · iexact TDagS1_19
    iexact RDagS1_19
  iintro ⟨CSagS1_19, HO⟩
  sl_exec_parts (disch := simp only [dev143_eq, dev144_eq, dev145_eq])
  iapply (wp_send_ag m K c 1 20 (by decide) gagS1_20 (W) (O + tallyAt (dmaCell (fwd c 21) agR 1 21) () Nc + tallyAt (dmaCell (fwd c 20) agR 1 20) () Nc) (O + tallyAt (dmaCell (fwd c 21) agR 1 21) () Nc) rfl) $$ [TSagS1_20 TDagS1_20 SrcagS1_20 DstagS1_20 HO]
  · isplitr; · iexact ISagS1_20
    isplitr; · iexact IDagS1_20
    isplitl [SrcagS1_20]; · iexact SrcagS1_20
    isplitl [DstagS1_20]; · iexact DstagS1_20
    isplitl [HO]; · iexact HO
    isplitl [TSagS1_20]; · iexact TSagS1_20
    isplitr; · iexact RSagS1_20
    isplitl [TDagS1_20]; · iexact TDagS1_20
    iexact RDagS1_20
  iintro ⟨CSagS1_20, HO⟩
  sl_exec_parts (disch := simp only [dev143_eq, dev144_eq, dev145_eq])
  iapply (wp_send_ag m K c 1 21 (by decide) gagS1_21 (W) (O + tallyAt (dmaCell (fwd c 21) agR 1 21) () Nc) (O) rfl) $$ [TSagS1_21 TDagS1_21 SrcagS1_21 DstagS1_21 HO]
  · isplitr; · iexact ISagS1_21
    isplitr; · iexact IDagS1_21
    isplitl [SrcagS1_21]; · iexact SrcagS1_21
    isplitl [DstagS1_21]; · iexact DstagS1_21
    isplitl [HO]; · iexact HO
    isplitl [TSagS1_21]; · iexact TSagS1_21
    isplitr; · iexact RSagS1_21
    isplitl [TDagS1_21]; · iexact TDagS1_21
    iexact RDagS1_21
  iintro ⟨CSagS1_21, HO⟩
  sl_exec_parts (disch := simp only [dev143_eq, dev144_eq, dev145_eq])
  sl_step
  iapply Hk
  isplitl [ASagS1_19 CSagS1_19]
  · (try unfold recvRes)
    isplitr; · iexact ISagS1_19
    isplitl [ASagS1_19]; · iexact ASagS1_19
    iexact CSagS1_19
  isplitl [ASagS1_20 CSagS1_20]
  · (try unfold recvRes)
    isplitr; · iexact ISagS1_20
    isplitl [ASagS1_20]; · iexact ASagS1_20
    iexact CSagS1_20
  isplitl [ASagS1_21 CSagS1_21]
  · (try unfold recvRes)
    isplitr; · iexact ISagS1_21
    isplitl [ASagS1_21]; · iexact ASagS1_21
    iexact CSagS1_21
  iexact HO

attribute [local sl_rounds] duties_dma amount_dma expect_dma in
set_option maxHeartbeats 4000000 in
theorem part88_spec (c : Dev nD) (v2 : BitVec 32) (v2254 : BitVec 32) (O : CellTallies nD τ sig Unit) (W : Waits sig Unit) (Q : (BitVec 32) → sProp 𝕄) :
    iprop(copyRes m K agS agR c 1 22
      ∗ ((chunk outM c 1).view.loc (c : Thread nD τ) ↦[(chunk outM c 1).view.set]{shr 22} (chunk outM c 1).view.rep (reduced m c 1))
      ∗ (∃ f, ((chunk outM c 1).view.loc (fwd c 22 : Thread nD τ) ↦[(chunk outM c 1).view.set]{fullShare} f))
      ∗ copyRes m K agS agR c 1 23
      ∗ ((chunk outM c 1).view.loc (c : Thread nD τ) ↦[(chunk outM c 1).view.set]{shr 23} (chunk outM c 1).view.rep (reduced m c 1))
      ∗ (∃ f, ((chunk outM c 1).view.loc (fwd c 23 : Thread nD τ) ↦[(chunk outM c 1).view.set]{fullShare} f))
      ∗ owes (c : Thread nD τ) (O + tallyAt (dmaCell (fwd c 23) agR 1 23) () Nc + tallyAt (dmaCell (fwd c 22) agR 1 22) () Nc) W
      ∗ (∀ r, (recvRes m K agS c 1 22
        ∗ recvRes m K agS c 1 23
        ∗ owes (c : Thread nD τ) (O) (W)) -∗ Q r))
      ⊢ wp frame (wpE (defs₀ (F := F)) 𝒱₀ c none) Set.univ (k0_part88 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2254) Q := by
  unfold copyRes
  iintro ⟨⟨#ISagS1_22, TSagS1_22, #RSagS1_22, ASagS1_22, #IDagS1_22, TDagS1_22, #RDagS1_22⟩, SrcagS1_22, ⟨%gagS1_22, DstagS1_22⟩, ⟨#ISagS1_23, TSagS1_23, #RSagS1_23, ASagS1_23, #IDagS1_23, TDagS1_23, #RDagS1_23⟩, SrcagS1_23, ⟨%gagS1_23, DstagS1_23⟩, HO, Hk⟩
  sl_exec_parts (disch := simp only [dev146_eq, dev147_eq])
  iapply (wp_send_ag m K c 1 22 (by decide) gagS1_22 (W) (O + tallyAt (dmaCell (fwd c 23) agR 1 23) () Nc + tallyAt (dmaCell (fwd c 22) agR 1 22) () Nc) (O + tallyAt (dmaCell (fwd c 23) agR 1 23) () Nc) rfl) $$ [TSagS1_22 TDagS1_22 SrcagS1_22 DstagS1_22 HO]
  · isplitr; · iexact ISagS1_22
    isplitr; · iexact IDagS1_22
    isplitl [SrcagS1_22]; · iexact SrcagS1_22
    isplitl [DstagS1_22]; · iexact DstagS1_22
    isplitl [HO]; · iexact HO
    isplitl [TSagS1_22]; · iexact TSagS1_22
    isplitr; · iexact RSagS1_22
    isplitl [TDagS1_22]; · iexact TDagS1_22
    iexact RDagS1_22
  iintro ⟨CSagS1_22, HO⟩
  sl_exec_parts (disch := simp only [dev146_eq, dev147_eq])
  iapply (wp_send_ag m K c 1 23 (by decide) gagS1_23 (W) (O + tallyAt (dmaCell (fwd c 23) agR 1 23) () Nc) (O) rfl) $$ [TSagS1_23 TDagS1_23 SrcagS1_23 DstagS1_23 HO]
  · isplitr; · iexact ISagS1_23
    isplitr; · iexact IDagS1_23
    isplitl [SrcagS1_23]; · iexact SrcagS1_23
    isplitl [DstagS1_23]; · iexact DstagS1_23
    isplitl [HO]; · iexact HO
    isplitl [TSagS1_23]; · iexact TSagS1_23
    isplitr; · iexact RSagS1_23
    isplitl [TDagS1_23]; · iexact TDagS1_23
    iexact RDagS1_23
  iintro ⟨CSagS1_23, HO⟩
  sl_exec_parts (disch := simp only [dev146_eq, dev147_eq])
  sl_step
  iapply Hk
  isplitl [ASagS1_22 CSagS1_22]
  · (try unfold recvRes)
    isplitr; · iexact ISagS1_22
    isplitl [ASagS1_22]; · iexact ASagS1_22
    iexact CSagS1_22
  isplitl [ASagS1_23 CSagS1_23]
  · (try unfold recvRes)
    isplitr; · iexact ISagS1_23
    isplitl [ASagS1_23]; · iexact ASagS1_23
    iexact CSagS1_23
  iexact HO

attribute [local sl_rounds] duties_dma amount_dma expect_dma in
set_option maxHeartbeats 4000000 in
theorem part89_spec (c : Dev nD) (v2 : BitVec 32) (v2279 : BitVec 32) (O : CellTallies nD τ sig Unit) (W : Waits sig Unit) (Q : (PUnit) → sProp 𝕄) :
    iprop(copyRes m K agS agR c 1 24
      ∗ ((chunk outM c 1).view.loc (c : Thread nD τ) ↦[(chunk outM c 1).view.set]{shr 24} (chunk outM c 1).view.rep (reduced m c 1))
      ∗ (∃ f, ((chunk outM c 1).view.loc (fwd c 24 : Thread nD τ) ↦[(chunk outM c 1).view.set]{fullShare} f))
      ∗ copyRes m K agS agR c 1 25
      ∗ ((chunk outM c 1).view.loc (c : Thread nD τ) ↦[(chunk outM c 1).view.set]{shr 25} (chunk outM c 1).view.rep (reduced m c 1))
      ∗ (∃ f, ((chunk outM c 1).view.loc (fwd c 25 : Thread nD τ) ↦[(chunk outM c 1).view.set]{fullShare} f))
      ∗ owes (c : Thread nD τ) (O + tallyAt (dmaCell (fwd c 25) agR 1 25) () Nc + tallyAt (dmaCell (fwd c 24) agR 1 24) () Nc) W
      ∗ (∀ r, (recvRes m K agS c 1 24
        ∗ recvRes m K agS c 1 25
        ∗ owes (c : Thread nD τ) (O) (W)) -∗ Q r))
      ⊢ wp frame (wpE (defs₀ (F := F)) 𝒱₀ c none) Set.univ (k0_part89 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2279) Q := by
  unfold copyRes
  iintro ⟨⟨#ISagS1_24, TSagS1_24, #RSagS1_24, ASagS1_24, #IDagS1_24, TDagS1_24, #RDagS1_24⟩, SrcagS1_24, ⟨%gagS1_24, DstagS1_24⟩, ⟨#ISagS1_25, TSagS1_25, #RSagS1_25, ASagS1_25, #IDagS1_25, TDagS1_25, #RDagS1_25⟩, SrcagS1_25, ⟨%gagS1_25, DstagS1_25⟩, HO, Hk⟩
  sl_exec_parts (disch := simp only [dev148_eq, dev149_eq])
  iapply (wp_send_ag m K c 1 24 (by decide) gagS1_24 (W) (O + tallyAt (dmaCell (fwd c 25) agR 1 25) () Nc + tallyAt (dmaCell (fwd c 24) agR 1 24) () Nc) (O + tallyAt (dmaCell (fwd c 25) agR 1 25) () Nc) rfl) $$ [TSagS1_24 TDagS1_24 SrcagS1_24 DstagS1_24 HO]
  · isplitr; · iexact ISagS1_24
    isplitr; · iexact IDagS1_24
    isplitl [SrcagS1_24]; · iexact SrcagS1_24
    isplitl [DstagS1_24]; · iexact DstagS1_24
    isplitl [HO]; · iexact HO
    isplitl [TSagS1_24]; · iexact TSagS1_24
    isplitr; · iexact RSagS1_24
    isplitl [TDagS1_24]; · iexact TDagS1_24
    iexact RDagS1_24
  iintro ⟨CSagS1_24, HO⟩
  sl_exec_parts (disch := simp only [dev148_eq, dev149_eq])
  iapply (wp_send_ag m K c 1 25 (by decide) gagS1_25 (W) (O + tallyAt (dmaCell (fwd c 25) agR 1 25) () Nc) (O) rfl) $$ [TSagS1_25 TDagS1_25 SrcagS1_25 DstagS1_25 HO]
  · isplitr; · iexact ISagS1_25
    isplitr; · iexact IDagS1_25
    isplitl [SrcagS1_25]; · iexact SrcagS1_25
    isplitl [DstagS1_25]; · iexact DstagS1_25
    isplitl [HO]; · iexact HO
    isplitl [TSagS1_25]; · iexact TSagS1_25
    isplitr; · iexact RSagS1_25
    isplitl [TDagS1_25]; · iexact TDagS1_25
    iexact RDagS1_25
  iintro ⟨CSagS1_25, HO⟩
  sl_exec_parts (disch := simp only [dev148_eq, dev149_eq])
  sl_step
  iapply Hk
  isplitl [ASagS1_24 CSagS1_24]
  · (try unfold recvRes)
    isplitr; · iexact ISagS1_24
    isplitl [ASagS1_24]; · iexact ASagS1_24
    iexact CSagS1_24
  isplitl [ASagS1_25 CSagS1_25]
  · (try unfold recvRes)
    isplitr; · iexact ISagS1_25
    isplitl [ASagS1_25]; · iexact ASagS1_25
    iexact CSagS1_25
  iexact HO

attribute [local sl_rounds] duties_dma amount_dma expect_dma in
set_option maxHeartbeats 4000000 in
theorem part90_spec (c : Dev nD) (v2 : BitVec 32) (O : CellTallies nD τ sig Unit) (W : Waits sig Unit) (Q : (Σ' (v2339 : BitVec 32), BitVec 32) → sProp 𝕄) :
    iprop(copyRes m K agS agR c 1 26
      ∗ ((chunk outM c 1).view.loc (c : Thread nD τ) ↦[(chunk outM c 1).view.set]{shr 26} (chunk outM c 1).view.rep (reduced m c 1))
      ∗ (∃ f, ((chunk outM c 1).view.loc (fwd c 26 : Thread nD τ) ↦[(chunk outM c 1).view.set]{fullShare} f))
      ∗ copyRes m K agS agR c 1 27
      ∗ ((chunk outM c 1).view.loc (c : Thread nD τ) ↦[(chunk outM c 1).view.set]{shr 27} (chunk outM c 1).view.rep (reduced m c 1))
      ∗ (∃ f, ((chunk outM c 1).view.loc (fwd c 27 : Thread nD τ) ↦[(chunk outM c 1).view.set]{fullShare} f))
      ∗ copyRes m K agS agR c 1 28
      ∗ ((chunk outM c 1).view.loc (c : Thread nD τ) ↦[(chunk outM c 1).view.set]{shr 28} (chunk outM c 1).view.rep (reduced m c 1))
      ∗ (∃ f, ((chunk outM c 1).view.loc (fwd c 28 : Thread nD τ) ↦[(chunk outM c 1).view.set]{fullShare} f))
      ∗ owes (c : Thread nD τ) (O + tallyAt (dmaCell (fwd c 28) agR 1 28) () Nc + tallyAt (dmaCell (fwd c 27) agR 1 27) () Nc + tallyAt (dmaCell (fwd c 26) agR 1 26) () Nc) W
      ∗ (∀ r, (recvRes m K agS c 1 26
        ∗ recvRes m K agS c 1 27
        ∗ recvRes m K agS c 1 28
        ∗ owes (c : Thread nD τ) (O) (W)) -∗ Q r))
      ⊢ wp frame (wpE (defs₀ (F := F)) 𝒱₀ c none) Set.univ (k0_part90 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold copyRes
  iintro ⟨⟨#ISagS1_26, TSagS1_26, #RSagS1_26, ASagS1_26, #IDagS1_26, TDagS1_26, #RDagS1_26⟩, SrcagS1_26, ⟨%gagS1_26, DstagS1_26⟩, ⟨#ISagS1_27, TSagS1_27, #RSagS1_27, ASagS1_27, #IDagS1_27, TDagS1_27, #RDagS1_27⟩, SrcagS1_27, ⟨%gagS1_27, DstagS1_27⟩, ⟨#ISagS1_28, TSagS1_28, #RSagS1_28, ASagS1_28, #IDagS1_28, TDagS1_28, #RDagS1_28⟩, SrcagS1_28, ⟨%gagS1_28, DstagS1_28⟩, HO, Hk⟩
  sl_exec_parts (disch := simp only [dev150_eq, dev151_eq, dev152_eq])
  iapply (wp_send_ag m K c 1 26 (by decide) gagS1_26 (W) (O + tallyAt (dmaCell (fwd c 28) agR 1 28) () Nc + tallyAt (dmaCell (fwd c 27) agR 1 27) () Nc + tallyAt (dmaCell (fwd c 26) agR 1 26) () Nc) (O + tallyAt (dmaCell (fwd c 28) agR 1 28) () Nc + tallyAt (dmaCell (fwd c 27) agR 1 27) () Nc) rfl) $$ [TSagS1_26 TDagS1_26 SrcagS1_26 DstagS1_26 HO]
  · isplitr; · iexact ISagS1_26
    isplitr; · iexact IDagS1_26
    isplitl [SrcagS1_26]; · iexact SrcagS1_26
    isplitl [DstagS1_26]; · iexact DstagS1_26
    isplitl [HO]; · iexact HO
    isplitl [TSagS1_26]; · iexact TSagS1_26
    isplitr; · iexact RSagS1_26
    isplitl [TDagS1_26]; · iexact TDagS1_26
    iexact RDagS1_26
  iintro ⟨CSagS1_26, HO⟩
  sl_exec_parts (disch := simp only [dev150_eq, dev151_eq, dev152_eq])
  iapply (wp_send_ag m K c 1 27 (by decide) gagS1_27 (W) (O + tallyAt (dmaCell (fwd c 28) agR 1 28) () Nc + tallyAt (dmaCell (fwd c 27) agR 1 27) () Nc) (O + tallyAt (dmaCell (fwd c 28) agR 1 28) () Nc) rfl) $$ [TSagS1_27 TDagS1_27 SrcagS1_27 DstagS1_27 HO]
  · isplitr; · iexact ISagS1_27
    isplitr; · iexact IDagS1_27
    isplitl [SrcagS1_27]; · iexact SrcagS1_27
    isplitl [DstagS1_27]; · iexact DstagS1_27
    isplitl [HO]; · iexact HO
    isplitl [TSagS1_27]; · iexact TSagS1_27
    isplitr; · iexact RSagS1_27
    isplitl [TDagS1_27]; · iexact TDagS1_27
    iexact RDagS1_27
  iintro ⟨CSagS1_27, HO⟩
  sl_exec_parts (disch := simp only [dev150_eq, dev151_eq, dev152_eq])
  iapply (wp_send_ag m K c 1 28 (by decide) gagS1_28 (W) (O + tallyAt (dmaCell (fwd c 28) agR 1 28) () Nc) (O) rfl) $$ [TSagS1_28 TDagS1_28 SrcagS1_28 DstagS1_28 HO]
  · isplitr; · iexact ISagS1_28
    isplitr; · iexact IDagS1_28
    isplitl [SrcagS1_28]; · iexact SrcagS1_28
    isplitl [DstagS1_28]; · iexact DstagS1_28
    isplitl [HO]; · iexact HO
    isplitl [TSagS1_28]; · iexact TSagS1_28
    isplitr; · iexact RSagS1_28
    isplitl [TDagS1_28]; · iexact TDagS1_28
    iexact RDagS1_28
  iintro ⟨CSagS1_28, HO⟩
  sl_exec_parts (disch := simp only [dev150_eq, dev151_eq, dev152_eq])
  sl_step
  iapply Hk
  isplitl [ASagS1_26 CSagS1_26]
  · (try unfold recvRes)
    isplitr; · iexact ISagS1_26
    isplitl [ASagS1_26]; · iexact ASagS1_26
    iexact CSagS1_26
  isplitl [ASagS1_27 CSagS1_27]
  · (try unfold recvRes)
    isplitr; · iexact ISagS1_27
    isplitl [ASagS1_27]; · iexact ASagS1_27
    iexact CSagS1_27
  isplitl [ASagS1_28 CSagS1_28]
  · (try unfold recvRes)
    isplitr; · iexact ISagS1_28
    isplitl [ASagS1_28]; · iexact ASagS1_28
    iexact CSagS1_28
  iexact HO

attribute [local sl_rounds] duties_dma amount_dma expect_dma in
set_option maxHeartbeats 4000000 in
theorem part91_spec (c : Dev nD) (v2 : BitVec 32) (v2339 : BitVec 32) (c32_i32_2797 : BitVec 32) (O : CellTallies nD τ sig Unit) (W : Waits sig Unit) (Q : (PUnit) → sProp 𝕄) :
    iprop(copyRes m K agS agR c 1 29
      ∗ ((chunk outM c 1).view.loc (c : Thread nD τ) ↦[(chunk outM c 1).view.set]{shr 29} (chunk outM c 1).view.rep (reduced m c 1))
      ∗ (∃ f, ((chunk outM c 1).view.loc (fwd c 29 : Thread nD τ) ↦[(chunk outM c 1).view.set]{fullShare} f))
      ∗ copyRes m K agS agR c 1 30
      ∗ ((chunk outM c 1).view.loc (c : Thread nD τ) ↦[(chunk outM c 1).view.set]{shr 30} (chunk outM c 1).view.rep (reduced m c 1))
      ∗ (∃ f, ((chunk outM c 1).view.loc (fwd c 30 : Thread nD τ) ↦[(chunk outM c 1).view.set]{fullShare} f))
      ∗ owes (c : Thread nD τ) (O + tallyAt (dmaCell (fwd c 30) agR 1 30) () Nc + tallyAt (dmaCell (fwd c 29) agR 1 29) () Nc) W
      ∗ (∀ r, (recvRes m K agS c 1 29
        ∗ recvRes m K agS c 1 30
        ∗ owes (c : Thread nD τ) (O) (W)) -∗ Q r))
      ⊢ wp frame (wpE (defs₀ (F := F)) 𝒱₀ c none) Set.univ (k0_part91 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2339 c32_i32_2797) Q := by
  unfold copyRes
  iintro ⟨⟨#ISagS1_29, TSagS1_29, #RSagS1_29, ASagS1_29, #IDagS1_29, TDagS1_29, #RDagS1_29⟩, SrcagS1_29, ⟨%gagS1_29, DstagS1_29⟩, ⟨#ISagS1_30, TSagS1_30, #RSagS1_30, ASagS1_30, #IDagS1_30, TDagS1_30, #RDagS1_30⟩, SrcagS1_30, ⟨%gagS1_30, DstagS1_30⟩, HO, Hk⟩
  sl_exec_parts (disch := simp only [dev153_eq, dev154_eq])
  iapply (wp_send_ag m K c 1 29 (by decide) gagS1_29 (W) (O + tallyAt (dmaCell (fwd c 30) agR 1 30) () Nc + tallyAt (dmaCell (fwd c 29) agR 1 29) () Nc) (O + tallyAt (dmaCell (fwd c 30) agR 1 30) () Nc) rfl) $$ [TSagS1_29 TDagS1_29 SrcagS1_29 DstagS1_29 HO]
  · isplitr; · iexact ISagS1_29
    isplitr; · iexact IDagS1_29
    isplitl [SrcagS1_29]; · iexact SrcagS1_29
    isplitl [DstagS1_29]; · iexact DstagS1_29
    isplitl [HO]; · iexact HO
    isplitl [TSagS1_29]; · iexact TSagS1_29
    isplitr; · iexact RSagS1_29
    isplitl [TDagS1_29]; · iexact TDagS1_29
    iexact RDagS1_29
  iintro ⟨CSagS1_29, HO⟩
  sl_exec_parts (disch := simp only [dev153_eq, dev154_eq])
  iapply (wp_send_ag m K c 1 30 (by decide) gagS1_30 (W) (O + tallyAt (dmaCell (fwd c 30) agR 1 30) () Nc) (O) rfl) $$ [TSagS1_30 TDagS1_30 SrcagS1_30 DstagS1_30 HO]
  · isplitr; · iexact ISagS1_30
    isplitr; · iexact IDagS1_30
    isplitl [SrcagS1_30]; · iexact SrcagS1_30
    isplitl [DstagS1_30]; · iexact DstagS1_30
    isplitl [HO]; · iexact HO
    isplitl [TSagS1_30]; · iexact TSagS1_30
    isplitr; · iexact RSagS1_30
    isplitl [TDagS1_30]; · iexact TDagS1_30
    iexact RDagS1_30
  iintro ⟨CSagS1_30, HO⟩
  sl_exec_parts (disch := simp only [dev153_eq, dev154_eq])
  sl_step
  iapply Hk
  isplitl [ASagS1_29 CSagS1_29]
  · (try unfold recvRes)
    isplitr; · iexact ISagS1_29
    isplitl [ASagS1_29]; · iexact ASagS1_29
    iexact CSagS1_29
  isplitl [ASagS1_30 CSagS1_30]
  · (try unfold recvRes)
    isplitr; · iexact ISagS1_30
    isplitl [ASagS1_30]; · iexact ASagS1_30
    iexact CSagS1_30
  iexact HO

attribute [local sl_rounds] duties_dma amount_dma expect_dma pay_rsS in
set_option maxHeartbeats 4000000 in
theorem part92_spec (c : Dev nD)  (O : CellTallies nD τ sig Unit) (hmwrsS0_1 : (levAts L lv : sProp 𝕄) ⊢ MayWait (c : Thread nD τ) (.dma (semAt (arr rsS) 0 1)) () O) (hmwrsS0_2 : (levAts L lv : sProp 𝕄) ⊢ MayWait (c : Thread nD τ) (.dma (semAt (arr rsS) 0 2)) () O) (hmwrsS0_3 : (levAts L lv : sProp 𝕄) ⊢ MayWait (c : Thread nD τ) (.dma (semAt (arr rsS) 0 3)) () O) (W : Waits sig Unit) (Q : (PUnit) → sProp 𝕄) :
    iprop(copyRes m K agS agR c 1 31
      ∗ ((chunk outM c 1).view.loc (c : Thread nD τ) ↦[(chunk outM c 1).view.set]{shr 31} (chunk outM c 1).view.rep (reduced m c 1))
      ∗ (∃ f, ((chunk outM c 1).view.loc (fwd c 31 : Thread nD τ) ↦[(chunk outM c 1).view.set]{fullShare} f))
      ∗ recvRes m K rsS c 0 1
      ∗ recvRes m K rsS c 0 2
      ∗ recvRes m K rsS c 0 3
      ∗ levAts L lv
      ∗ owes (c : Thread nD τ) (O + tallyAt (dmaCell (fwd c 31) agR 1 31) () Nc) W
      ∗ (∀ r, (recvRes m K agS c 1 31
        ∗ ((chunk accM (fwd c 1) 0).view.loc (c : Thread nD τ) ↦[(chunk accM (fwd c 1) 0).view.set]{fullShare} (chunk accM (fwd c 1) 0).view.rep (sent m c (fwd c 1) 0))
        ∗ (cellInv ER (sched m) (K (dmaCell c rsS 0 1)) (dmaCell c rsS 0 1) ∗ atPos ER (dmaCell c rsS 0 1) 1 ∅ 0)
        ∗ ((chunk accM (fwd c 2) 0).view.loc (c : Thread nD τ) ↦[(chunk accM (fwd c 2) 0).view.set]{fullShare} (chunk accM (fwd c 2) 0).view.rep (sent m c (fwd c 2) 0))
        ∗ (cellInv ER (sched m) (K (dmaCell c rsS 0 2)) (dmaCell c rsS 0 2) ∗ atPos ER (dmaCell c rsS 0 2) 1 ∅ 0)
        ∗ ((chunk accM (fwd c 3) 0).view.loc (c : Thread nD τ) ↦[(chunk accM (fwd c 3) 0).view.set]{fullShare} (chunk accM (fwd c 3) 0).view.rep (sent m c (fwd c 3) 0))
        ∗ (cellInv ER (sched m) (K (dmaCell c rsS 0 3)) (dmaCell c rsS 0 3) ∗ atPos ER (dmaCell c rsS 0 3) 1 ∅ 0)
        ∗ owes (c : Thread nD τ) (O) (insert (SemLoc.dma (semAt (arr rsS) 0 3), ()) (insert (SemLoc.dma (semAt (arr rsS) 0 2), ()) (insert (SemLoc.dma (semAt (arr rsS) 0 1), ()) (W))))) -∗ Q r))
      ⊢ wp frame (wpE (defs₀ (F := F)) 𝒱₀ c none) Set.univ (k0_part92 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold copyRes recvRes
  iintro ⟨⟨#ISagS1_31, TSagS1_31, #RSagS1_31, ASagS1_31, #IDagS1_31, TDagS1_31, #RDagS1_31⟩, SrcagS1_31, ⟨%gagS1_31, DstagS1_31⟩, ⟨#IrsS0_1, ArsS0_1, CrsS0_1⟩, ⟨#IrsS0_2, ArsS0_2, CrsS0_2⟩, ⟨#IrsS0_3, ArsS0_3, CrsS0_3⟩, #Hlev, HO, Hk⟩
  sl_exec_parts (disch := simp only [dev155_eq])
  iapply (wp_send_ag m K c 1 31 (by decide) gagS1_31 (W) (O + tallyAt (dmaCell (fwd c 31) agR 1 31) () Nc) (O) rfl) $$ [TSagS1_31 TDagS1_31 SrcagS1_31 DstagS1_31 HO]
  · isplitr; · iexact ISagS1_31
    isplitr; · iexact IDagS1_31
    isplitl [SrcagS1_31]; · iexact SrcagS1_31
    isplitl [DstagS1_31]; · iexact DstagS1_31
    isplitl [HO]; · iexact HO
    isplitl [TSagS1_31]; · iexact TSagS1_31
    isplitr; · iexact RSagS1_31
    isplitl [TDagS1_31]; · iexact TDagS1_31
    iexact RDagS1_31
  iintro ⟨CSagS1_31, HO⟩
  sl_exec_parts (disch := simp only [dev155_eq])
  sl_step
  iapply Hk
  isplitl [ASagS1_31 CSagS1_31]
  · (try unfold recvRes)
    isplitr; · iexact ISagS1_31
    isplitl [ASagS1_31]; · iexact ASagS1_31
    iexact CSagS1_31
  isplitl [ArsS0_1_pay1]; · iexact ArsS0_1_pay1
  isplitl [ArsS0_1]; · (isplitr; · iexact IrsS0_1); iexact ArsS0_1
  isplitl [ArsS0_2_pay1]; · iexact ArsS0_2_pay1
  isplitl [ArsS0_2]; · (isplitr; · iexact IrsS0_2); iexact ArsS0_2
  isplitl [ArsS0_3_pay1]; · iexact ArsS0_3_pay1
  isplitl [ArsS0_3]; · (isplitr; · iexact IrsS0_3); iexact ArsS0_3
  iexact HO

end Cert.Kernel.AllReduce

end
-- ==== Proof.Word.BodyWaitsA.lean ====
/-
  The receive waits of the reduce phase, half 0: each hands the device one filled slot.
  One statement per printed part of the kernel body, over the resources that part touches and nothing else.
-/
import proofs.«900438_g7700000000000439_dist_gemm_ar_m1024_k1024_n1024_f32_gelu_v7x_i32_1_alg».proof.Proof.Word.BodyTables
noncomputable section
namespace Cert.Kernel.AllReduce
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_rsR in
set_option maxHeartbeats 4000000 in
theorem part36_spec (c : Dev nD) (v2 : BitVec 32) (W : Waits sig Unit) (Q : (PUnit) → sProp 𝕄) :
    iprop(recvRes m K rsR c 0 2
      ∗ recvRes m K rsR c 0 3
      ∗ levAts L lv
      ∗ owes (c : Thread nD τ) (owedAfter c 93) W
      ∗ (∀ r, (((slot 0 2).view.loc (c : Thread nD τ) ↦[(slot 0 2).view.set]{fullShare} (slot 0 2).view.rep (sent m (bwd c 2) c 0))
        ∗ (cellInv ER (sched m) (K (dmaCell c rsR 0 2)) (dmaCell c rsR 0 2) ∗ atPos ER (dmaCell c rsR 0 2) 1 ∅ 0)
        ∗ ((slot 0 3).view.loc (c : Thread nD τ) ↦[(slot 0 3).view.set]{fullShare} (slot 0 3).view.rep (sent m (bwd c 3) c 0))
        ∗ (cellInv ER (sched m) (K (dmaCell c rsR 0 3)) (dmaCell c rsR 0 3) ∗ atPos ER (dmaCell c rsR 0 3) 1 ∅ 0)
        ∗ owes (c : Thread nD τ) (owedAfter c 93) (insert (SemLoc.dma (semAt (arr rsR) 0 3), ()) (insert (SemLoc.dma (semAt (arr rsR) 0 2), ()) (W)))) -∗ Q r))
      ⊢ wp frame (wpE (defs₀ (F := F)) 𝒱₀ c none) Set.univ (k0_part36 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR0_2, ArsR0_2, CrsR0_2⟩, ⟨#IrsR0_3, ArsR0_3, CrsR0_3⟩, #Hlev, HO, Hk⟩
  have hmwrsR0_2 := mayWait_rsR0 (F := F) c 2
  have hmwrsR0_3 := mayWait_rsR0 (F := F) c 3
  sl_exec_parts
  sl_step
  iapply Hk
  isplitl [ArsR0_2_pay1]; · iexact ArsR0_2_pay1
  isplitl [ArsR0_2]; · (isplitr; · iexact IrsR0_2); iexact ArsR0_2
  isplitl [ArsR0_3_pay1]; · iexact ArsR0_3_pay1
  isplitl [ArsR0_3]; · (isplitr; · iexact IrsR0_3); iexact ArsR0_3
  iexact HO

attribute [local sl_rounds] duties_dma amount_dma expect_dma pay_rsR in
set_option maxHeartbeats 4000000 in
theorem part37_spec (c : Dev nD) (v2 : BitVec 32) (W : Waits sig Unit) (Q : (PUnit) → sProp 𝕄) :
    iprop(recvRes m K rsR c 0 4
      ∗ recvRes m K rsR c 0 5
      ∗ levAts L lv
      ∗ owes (c : Thread nD τ) (owedAfter c 93) W
      ∗ (∀ r, (((slot 0 4).view.loc (c : Thread nD τ) ↦[(slot 0 4).view.set]{fullShare} (slot 0 4).view.rep (sent m (bwd c 4) c 0))
        ∗ (cellInv ER (sched m) (K (dmaCell c rsR 0 4)) (dmaCell c rsR 0 4) ∗ atPos ER (dmaCell c rsR 0 4) 1 ∅ 0)
        ∗ ((slot 0 5).view.loc (c : Thread nD τ) ↦[(slot 0 5).view.set]{fullShare} (slot 0 5).view.rep (sent m (bwd c 5) c 0))
        ∗ (cellInv ER (sched m) (K (dmaCell c rsR 0 5)) (dmaCell c rsR 0 5) ∗ atPos ER (dmaCell c rsR 0 5) 1 ∅ 0)
        ∗ owes (c : Thread nD τ) (owedAfter c 93) (insert (SemLoc.dma (semAt (arr rsR) 0 5), ()) (insert (SemLoc.dma (semAt (arr rsR) 0 4), ()) (W)))) -∗ Q r))
      ⊢ wp frame (wpE (defs₀ (F := F)) 𝒱₀ c none) Set.univ (k0_part37 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR0_4, ArsR0_4, CrsR0_4⟩, ⟨#IrsR0_5, ArsR0_5, CrsR0_5⟩, #Hlev, HO, Hk⟩
  have hmwrsR0_4 := mayWait_rsR0 (F := F) c 4
  have hmwrsR0_5 := mayWait_rsR0 (F := F) c 5
  sl_exec_parts
  sl_step
  iapply Hk
  isplitl [ArsR0_4_pay1]; · iexact ArsR0_4_pay1
  isplitl [ArsR0_4]; · (isplitr; · iexact IrsR0_4); iexact ArsR0_4
  isplitl [ArsR0_5_pay1]; · iexact ArsR0_5_pay1
  isplitl [ArsR0_5]; · (isplitr; · iexact IrsR0_5); iexact ArsR0_5
  iexact HO

attribute [local sl_rounds] duties_dma amount_dma expect_dma pay_rsR in
set_option maxHeartbeats 4000000 in
theorem part38_spec (c : Dev nD) (v2 : BitVec 32) (W : Waits sig Unit) (Q : (PUnit) → sProp 𝕄) :
    iprop(recvRes m K rsR c 0 6
      ∗ recvRes m K rsR c 0 7
      ∗ levAts L lv
      ∗ owes (c : Thread nD τ) (owedAfter c 93) W
      ∗ (∀ r, (((slot 0 6).view.loc (c : Thread nD τ) ↦[(slot 0 6).view.set]{fullShare} (slot 0 6).view.rep (sent m (bwd c 6) c 0))
        ∗ (cellInv ER (sched m) (K (dmaCell c rsR 0 6)) (dmaCell c rsR 0 6) ∗ atPos ER (dmaCell c rsR 0 6) 1 ∅ 0)
        ∗ ((slot 0 7).view.loc (c : Thread nD τ) ↦[(slot 0 7).view.set]{fullShare} (slot 0 7).view.rep (sent m (bwd c 7) c 0))
        ∗ (cellInv ER (sched m) (K (dmaCell c rsR 0 7)) (dmaCell c rsR 0 7) ∗ atPos ER (dmaCell c rsR 0 7) 1 ∅ 0)
        ∗ owes (c : Thread nD τ) (owedAfter c 93) (insert (SemLoc.dma (semAt (arr rsR) 0 7), ()) (insert (SemLoc.dma (semAt (arr rsR) 0 6), ()) (W)))) -∗ Q r))
      ⊢ wp frame (wpE (defs₀ (F := F)) 𝒱₀ c none) Set.univ (k0_part38 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR0_6, ArsR0_6, CrsR0_6⟩, ⟨#IrsR0_7, ArsR0_7, CrsR0_7⟩, #Hlev, HO, Hk⟩
  have hmwrsR0_6 := mayWait_rsR0 (F := F) c 6
  have hmwrsR0_7 := mayWait_rsR0 (F := F) c 7
  sl_exec_parts
  sl_step
  iapply Hk
  isplitl [ArsR0_6_pay1]; · iexact ArsR0_6_pay1
  isplitl [ArsR0_6]; · (isplitr; · iexact IrsR0_6); iexact ArsR0_6
  isplitl [ArsR0_7_pay1]; · iexact ArsR0_7_pay1
  isplitl [ArsR0_7]; · (isplitr; · iexact IrsR0_7); iexact ArsR0_7
  iexact HO

attribute [local sl_rounds] duties_dma amount_dma expect_dma pay_rsR in
set_option maxHeartbeats 4000000 in
theorem part39_spec (c : Dev nD) (v2 : BitVec 32) (W : Waits sig Unit) (Q : (PUnit) → sProp 𝕄) :
    iprop(recvRes m K rsR c 0 8
      ∗ recvRes m K rsR c 0 9
      ∗ recvRes m K rsR c 0 10
      ∗ levAts L lv
      ∗ owes (c : Thread nD τ) (owedAfter c 93) W
      ∗ (∀ r, (((slot 0 8).view.loc (c : Thread nD τ) ↦[(slot 0 8).view.set]{fullShare} (slot 0 8).view.rep (sent m (bwd c 8) c 0))
        ∗ (cellInv ER (sched m) (K (dmaCell c rsR 0 8)) (dmaCell c rsR 0 8) ∗ atPos ER (dmaCell c rsR 0 8) 1 ∅ 0)
        ∗ ((slot 0 9).view.loc (c : Thread nD τ) ↦[(slot 0 9).view.set]{fullShare} (slot 0 9).view.rep (sent m (bwd c 9) c 0))
        ∗ (cellInv ER (sched m) (K (dmaCell c rsR 0 9)) (dmaCell c rsR 0 9) ∗ atPos ER (dmaCell c rsR 0 9) 1 ∅ 0)
        ∗ ((slot 0 10).view.loc (c : Thread nD τ) ↦[(slot 0 10).view.set]{fullShare} (slot 0 10).view.rep (sent m (bwd c 10) c 0))
        ∗ (cellInv ER (sched m) (K (dmaCell c rsR 0 10)) (dmaCell c rsR 0 10) ∗ atPos ER (dmaCell c rsR 0 10) 1 ∅ 0)
        ∗ owes (c : Thread nD τ) (owedAfter c 93) (insert (SemLoc.dma (semAt (arr rsR) 0 10), ()) (insert (SemLoc.dma (semAt (arr rsR) 0 9), ()) (insert (SemLoc.dma (semAt (arr rsR) 0 8), ()) (W))))) -∗ Q r))
      ⊢ wp frame (wpE (defs₀ (F := F)) 𝒱₀ c none) Set.univ (k0_part39 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR0_8, ArsR0_8, CrsR0_8⟩, ⟨#IrsR0_9, ArsR0_9, CrsR0_9⟩, ⟨#IrsR0_10, ArsR0_10, CrsR0_10⟩, #Hlev, HO, Hk⟩
  have hmwrsR0_8 := mayWait_rsR0 (F := F) c 8
  have hmwrsR0_9 := mayWait_rsR0 (F := F) c 9
  have hmwrsR0_10 := mayWait_rsR0 (F := F) c 10
  sl_exec_parts
  sl_step
  iapply Hk
  isplitl [ArsR0_8_pay1]; · iexact ArsR0_8_pay1
  isplitl [ArsR0_8]; · (isplitr; · iexact IrsR0_8); iexact ArsR0_8
  isplitl [ArsR0_9_pay1]; · iexact ArsR0_9_pay1
  isplitl [ArsR0_9]; · (isplitr; · iexact IrsR0_9); iexact ArsR0_9
  isplitl [ArsR0_10_pay1]; · iexact ArsR0_10_pay1
  isplitl [ArsR0_10]; · (isplitr; · iexact IrsR0_10); iexact ArsR0_10
  iexact HO

attribute [local sl_rounds] duties_dma amount_dma expect_dma pay_rsR in
set_option maxHeartbeats 4000000 in
theorem part40_spec (c : Dev nD) (v2 : BitVec 32) (W : Waits sig Unit) (Q : (BitVec 32) → sProp 𝕄) :
    iprop(recvRes m K rsR c 0 11
      ∗ recvRes m K rsR c 0 12
      ∗ levAts L lv
      ∗ owes (c : Thread nD τ) (owedAfter c 93) W
      ∗ (∀ r, (((slot 0 11).view.loc (c : Thread nD τ) ↦[(slot 0 11).view.set]{fullShare} (slot 0 11).view.rep (sent m (bwd c 11) c 0))
        ∗ (cellInv ER (sched m) (K (dmaCell c rsR 0 11)) (dmaCell c rsR 0 11) ∗ atPos ER (dmaCell c rsR 0 11) 1 ∅ 0)
        ∗ ((slot 0 12).view.loc (c : Thread nD τ) ↦[(slot 0 12).view.set]{fullShare} (slot 0 12).view.rep (sent m (bwd c 12) c 0))
        ∗ (cellInv ER (sched m) (K (dmaCell c rsR 0 12)) (dmaCell c rsR 0 12) ∗ atPos ER (dmaCell c rsR 0 12) 1 ∅ 0)
        ∗ owes (c : Thread nD τ) (owedAfter c 93) (insert (SemLoc.dma (semAt (arr rsR) 0 12), ()) (insert (SemLoc.dma (semAt (arr rsR) 0 11), ()) (W)))) -∗ Q r))
      ⊢ wp frame (wpE (defs₀ (F := F)) 𝒱₀ c none) Set.univ (k0_part40 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR0_11, ArsR0_11, CrsR0_11⟩, ⟨#IrsR0_12, ArsR0_12, CrsR0_12⟩, #Hlev, HO, Hk⟩
  have hmwrsR0_11 := mayWait_rsR0 (F := F) c 11
  have hmwrsR0_12 := mayWait_rsR0 (F := F) c 12
  sl_exec_parts
  sl_step
  iapply Hk
  isplitl [ArsR0_11_pay1]; · iexact ArsR0_11_pay1
  isplitl [ArsR0_11]; · (isplitr; · iexact IrsR0_11); iexact ArsR0_11
  isplitl [ArsR0_12_pay1]; · iexact ArsR0_12_pay1
  isplitl [ArsR0_12]; · (isplitr; · iexact IrsR0_12); iexact ArsR0_12
  iexact HO

attribute [local sl_rounds] duties_dma amount_dma expect_dma pay_rsR in
set_option maxHeartbeats 4000000 in
theorem part41_spec (c : Dev nD) (v2 : BitVec 32) (v1034 : BitVec 32) (W : Waits sig Unit) (Q : (BitVec 32) → sProp 𝕄) :
    iprop(recvRes m K rsR c 0 13
      ∗ recvRes m K rsR c 0 14
      ∗ levAts L lv
      ∗ owes (c : Thread nD τ) (owedAfter c 93) W
      ∗ (∀ r, (((slot 0 13).view.loc (c : Thread nD τ) ↦[(slot 0 13).view.set]{fullShare} (slot 0 13).view.rep (sent m (bwd c 13) c 0))
        ∗ (cellInv ER (sched m) (K (dmaCell c rsR 0 13)) (dmaCell c rsR 0 13) ∗ atPos ER (dmaCell c rsR 0 13) 1 ∅ 0)
        ∗ ((slot 0 14).view.loc (c : Thread nD τ) ↦[(slot 0 14).view.set]{fullShare} (slot 0 14).view.rep (sent m (bwd c 14) c 0))
        ∗ (cellInv ER (sched m) (K (dmaCell c rsR 0 14)) (dmaCell c rsR 0 14) ∗ atPos ER (dmaCell c rsR 0 14) 1 ∅ 0)
        ∗ owes (c : Thread nD τ) (owedAfter c 93) (insert (SemLoc.dma (semAt (arr rsR) 0 14), ()) (insert (SemLoc.dma (semAt (arr rsR) 0 13), ()) (W)))) -∗ Q r))
      ⊢ wp frame (wpE (defs₀ (F := F)) 𝒱₀ c none) Set.univ (k0_part41 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1034) Q := by
  unfold recvRes
  iintro ⟨⟨#IrsR0_13, ArsR0_13, CrsR0_13⟩, ⟨#IrsR0_14, ArsR0_14, CrsR0_14⟩, #Hlev, HO, Hk⟩
  have hmwrsR0_13 := mayWait_rsR0 (F := F) c 13
  have hmwrsR0_14 := mayWait_rsR0 (F := F) c 14
  sl_exec_parts
  sl_step
  iapply Hk
  isplitl [ArsR0_13_pay1]; · iexact ArsR0_13_pay1
  isplitl [ArsR0_13]; · (isplitr; · iexact IrsR0_13); iexact ArsR0_13
  isplitl [ArsR0_14_pay1]; · iexact ArsR0_14_pay1
  isplitl [ArsR0_14]; · (isplitr; · iexact IrsR0_14); iexact ArsR0_14
  iexact HO

attribute [local sl_rounds] duties_dma amount_dma expect_dma pay_rsR in
set_option maxHeartbeats 4000000 in
theorem part42_spec (c : Dev nD) (v2 : BitVec 32) (v1057 : BitVec 32) (W : Waits sig Unit) (Q : (BitVec 32) → sProp 𝕄) :
    iprop(recvRes m K rsR c 0 15
      ∗ recvRes m K rsR c 0 16
      ∗ levAts L lv
      ∗ owes (c : Thread nD τ) (owedAfter c 93) W
      ∗ (∀ r, (((slot 0 15).view.loc (c : Thread nD τ) ↦[(slot 0 15).view.set]{fullShare} (slot 0 15).view.rep (sent m (bwd c 15) c 0))
        ∗ (cellInv ER (sched m) (K (dmaCell c rsR 0 15)) (dmaCell c rsR 0 15) ∗ atPos ER (dmaCell c rsR 0 15) 1 ∅ 0)
        ∗ ((slot 0 16).view.loc (c : Thread nD τ) ↦[(slot 0 16).view.set]{fullShare} (slot 0 16).view.rep (sent m (bwd c 16) c 0))
        ∗ (cellInv ER (sched m) (K (dmaCell c rsR 0 16)) (dmaCell c rsR 0 16) ∗ atPos ER (dmaCell c rsR 0 16) 1 ∅ 0)
        ∗ owes (c : Thread nD τ) (owedAfter c 93) (insert (SemLoc.dma (semAt (arr rsR) 0 16), ()) (insert (SemLoc.dma (semAt (arr rsR) 0 15), ()) (W)))) -∗ Q r))
      ⊢ wp frame (wpE (defs₀ (F := F)) 𝒱₀ c none) Set.univ (k0_part42 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1057) Q := by
  unfold recvRes
  iintro ⟨⟨#IrsR0_15, ArsR0_15, CrsR0_15⟩, ⟨#IrsR0_16, ArsR0_16, CrsR0_16⟩, #Hlev, HO, Hk⟩
  have hmwrsR0_15 := mayWait_rsR0 (F := F) c 15
  have hmwrsR0_16 := mayWait_rsR0 (F := F) c 16
  sl_exec_parts
  sl_step
  iapply Hk
  isplitl [ArsR0_15_pay1]; · iexact ArsR0_15_pay1
  isplitl [ArsR0_15]; · (isplitr; · iexact IrsR0_15); iexact ArsR0_15
  isplitl [ArsR0_16_pay1]; · iexact ArsR0_16_pay1
  isplitl [ArsR0_16]; · (isplitr; · iexact IrsR0_16); iexact ArsR0_16
  iexact HO

attribute [local sl_rounds] duties_dma amount_dma expect_dma pay_rsR in
set_option maxHeartbeats 4000000 in
theorem part43_spec (c : Dev nD) (v2 : BitVec 32) (v1080 : BitVec 32) (W : Waits sig Unit) (Q : (BitVec 32) → sProp 𝕄) :
    iprop(recvRes m K rsR c 0 17
      ∗ recvRes m K rsR c 0 18
      ∗ levAts L lv
      ∗ owes (c : Thread nD τ) (owedAfter c 93) W
      ∗ (∀ r, (((slot 0 17).view.loc (c : Thread nD τ) ↦[(slot 0 17).view.set]{fullShare} (slot 0 17).view.rep (sent m (bwd c 17) c 0))
        ∗ (cellInv ER (sched m) (K (dmaCell c rsR 0 17)) (dmaCell c rsR 0 17) ∗ atPos ER (dmaCell c rsR 0 17) 1 ∅ 0)
        ∗ ((slot 0 18).view.loc (c : Thread nD τ) ↦[(slot 0 18).view.set]{fullShare} (slot 0 18).view.rep (sent m (bwd c 18) c 0))
        ∗ (cellInv ER (sched m) (K (dmaCell c rsR 0 18)) (dmaCell c rsR 0 18) ∗ atPos ER (dmaCell c rsR 0 18) 1 ∅ 0)
        ∗ owes (c : Thread nD τ) (owedAfter c 93) (insert (SemLoc.dma (semAt (arr rsR) 0 18), ()) (insert (SemLoc.dma (semAt (arr rsR) 0 17), ()) (W)))) -∗ Q r))
      ⊢ wp frame (wpE (defs₀ (F := F)) 𝒱₀ c none) Set.univ (k0_part43 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1080) Q := by
  unfold recvRes
  iintro ⟨⟨#IrsR0_17, ArsR0_17, CrsR0_17⟩, ⟨#IrsR0_18, ArsR0_18, CrsR0_18⟩, #Hlev, HO, Hk⟩
  have hmwrsR0_17 := mayWait_rsR0 (F := F) c 17
  have hmwrsR0_18 := mayWait_rsR0 (F := F) c 18
  sl_exec_parts
  sl_step
  iapply Hk
  isplitl [ArsR0_17_pay1]; · iexact ArsR0_17_pay1
  isplitl [ArsR0_17]; · (isplitr; · iexact IrsR0_17); iexact ArsR0_17
  isplitl [ArsR0_18_pay1]; · iexact ArsR0_18_pay1
  isplitl [ArsR0_18]; · (isplitr; · iexact IrsR0_18); iexact ArsR0_18
  iexact HO

attribute [local sl_rounds] duties_dma amount_dma expect_dma pay_rsR in
set_option maxHeartbeats 4000000 in
theorem part44_spec (c : Dev nD) (v2 : BitVec 32) (v1102 : BitVec 32) (W : Waits sig Unit) (Q : (BitVec 32) → sProp 𝕄) :
    iprop(recvRes m K rsR c 0 19
      ∗ recvRes m K rsR c 0 20
      ∗ levAts L lv
      ∗ owes (c : Thread nD τ) (owedAfter c 93) W
      ∗ (∀ r, (((slot 0 19).view.loc (c : Thread nD τ) ↦[(slot 0 19).view.set]{fullShare} (slot 0 19).view.rep (sent m (bwd c 19) c 0))
        ∗ (cellInv ER (sched m) (K (dmaCell c rsR 0 19)) (dmaCell c rsR 0 19) ∗ atPos ER (dmaCell c rsR 0 19) 1 ∅ 0)
        ∗ ((slot 0 20).view.loc (c : Thread nD τ) ↦[(slot 0 20).view.set]{fullShare} (slot 0 20).view.rep (sent m (bwd c 20) c 0))
        ∗ (cellInv ER (sched m) (K (dmaCell c rsR 0 20)) (dmaCell c rsR 0 20) ∗ atPos ER (dmaCell c rsR 0 20) 1 ∅ 0)
        ∗ owes (c : Thread nD τ) (owedAfter c 93) (insert (SemLoc.dma (semAt (arr rsR) 0 20), ()) (insert (SemLoc.dma (semAt (arr rsR) 0 19), ()) (W)))) -∗ Q r))
      ⊢ wp frame (wpE (defs₀ (F := F)) 𝒱₀ c none) Set.univ (k0_part44 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1102) Q := by
  unfold recvRes
  iintro ⟨⟨#IrsR0_19, ArsR0_19, CrsR0_19⟩, ⟨#IrsR0_20, ArsR0_20, CrsR0_20⟩, #Hlev, HO, Hk⟩
  have hmwrsR0_19 := mayWait_rsR0 (F := F) c 19
  have hmwrsR0_20 := mayWait_rsR0 (F := F) c 20
  sl_exec_parts
  sl_step
  iapply Hk
  isplitl [ArsR0_19_pay1]; · iexact ArsR0_19_pay1
  isplitl [ArsR0_19]; · (isplitr; · iexact IrsR0_19); iexact ArsR0_19
  isplitl [ArsR0_20_pay1]; · iexact ArsR0_20_pay1
  isplitl [ArsR0_20]; · (isplitr; · iexact IrsR0_20); iexact ArsR0_20
  iexact HO

attribute [local sl_rounds] duties_dma amount_dma expect_dma pay_rsR in
set_option maxHeartbeats 4000000 in
theorem part45_spec (c : Dev nD) (v2 : BitVec 32) (v1124 : BitVec 32) (W : Waits sig Unit) (Q : (BitVec 32) → sProp 𝕄) :
    iprop(recvRes m K rsR c 0 21
      ∗ recvRes m K rsR c 0 22
      ∗ levAts L lv
      ∗ owes (c : Thread nD τ) (owedAfter c 93) W
      ∗ (∀ r, (((slot 0 21).view.loc (c : Thread nD τ) ↦[(slot 0 21).view.set]{fullShare} (slot 0 21).view.rep (sent m (bwd c 21) c 0))
        ∗ (cellInv ER (sched m) (K (dmaCell c rsR 0 21)) (dmaCell c rsR 0 21) ∗ atPos ER (dmaCell c rsR 0 21) 1 ∅ 0)
        ∗ ((slot 0 22).view.loc (c : Thread nD τ) ↦[(slot 0 22).view.set]{fullShare} (slot 0 22).view.rep (sent m (bwd c 22) c 0))
        ∗ (cellInv ER (sched m) (K (dmaCell c rsR 0 22)) (dmaCell c rsR 0 22) ∗ atPos ER (dmaCell c rsR 0 22) 1 ∅ 0)
        ∗ owes (c : Thread nD τ) (owedAfter c 93) (insert (SemLoc.dma (semAt (arr rsR) 0 22), ()) (insert (SemLoc.dma (semAt (arr rsR) 0 21), ()) (W)))) -∗ Q r))
      ⊢ wp frame (wpE (defs₀ (F := F)) 𝒱₀ c none) Set.univ (k0_part45 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1124) Q := by
  unfold recvRes
  iintro ⟨⟨#IrsR0_21, ArsR0_21, CrsR0_21⟩, ⟨#IrsR0_22, ArsR0_22, CrsR0_22⟩, #Hlev, HO, Hk⟩
  have hmwrsR0_21 := mayWait_rsR0 (F := F) c 21
  have hmwrsR0_22 := mayWait_rsR0 (F := F) c 22
  sl_exec_parts
  sl_step
  iapply Hk
  isplitl [ArsR0_21_pay1]; · iexact ArsR0_21_pay1
  isplitl [ArsR0_21]; · (isplitr; · iexact IrsR0_21); iexact ArsR0_21
  isplitl [ArsR0_22_pay1]; · iexact ArsR0_22_pay1
  isplitl [ArsR0_22]; · (isplitr; · iexact IrsR0_22); iexact ArsR0_22
  iexact HO

attribute [local sl_rounds] duties_dma amount_dma expect_dma pay_rsR in
set_option maxHeartbeats 4000000 in
theorem part46_spec (c : Dev nD) (v2 : BitVec 32) (v1146 : BitVec 32) (W : Waits sig Unit) (Q : (BitVec 32) → sProp 𝕄) :
    iprop(recvRes m K rsR c 0 23
      ∗ recvRes m K rsR c 0 24
      ∗ levAts L lv
      ∗ owes (c : Thread nD τ) (owedAfter c 93) W
      ∗ (∀ r, (((slot 0 23).view.loc (c : Thread nD τ) ↦[(slot 0 23).view.set]{fullShare} (slot 0 23).view.rep (sent m (bwd c 23) c 0))
        ∗ (cellInv ER (sched m) (K (dmaCell c rsR 0 23)) (dmaCell c rsR 0 23) ∗ atPos ER (dmaCell c rsR 0 23) 1 ∅ 0)
        ∗ ((slot 0 24).view.loc (c : Thread nD τ) ↦[(slot 0 24).view.set]{fullShare} (slot 0 24).view.rep (sent m (bwd c 24) c 0))
        ∗ (cellInv ER (sched m) (K (dmaCell c rsR 0 24)) (dmaCell c rsR 0 24) ∗ atPos ER (dmaCell c rsR 0 24) 1 ∅ 0)
        ∗ owes (c : Thread nD τ) (owedAfter c 93) (insert (SemLoc.dma (semAt (arr rsR) 0 24), ()) (insert (SemLoc.dma (semAt (arr rsR) 0 23), ()) (W)))) -∗ Q r))
      ⊢ wp frame (wpE (defs₀ (F := F)) 𝒱₀ c none) Set.univ (k0_part46 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1146) Q := by
  unfold recvRes
  iintro ⟨⟨#IrsR0_23, ArsR0_23, CrsR0_23⟩, ⟨#IrsR0_24, ArsR0_24, CrsR0_24⟩, #Hlev, HO, Hk⟩
  have hmwrsR0_23 := mayWait_rsR0 (F := F) c 23
  have hmwrsR0_24 := mayWait_rsR0 (F := F) c 24
  sl_exec_parts
  sl_step
  iapply Hk
  isplitl [ArsR0_23_pay1]; · iexact ArsR0_23_pay1
  isplitl [ArsR0_23]; · (isplitr; · iexact IrsR0_23); iexact ArsR0_23
  isplitl [ArsR0_24_pay1]; · iexact ArsR0_24_pay1
  isplitl [ArsR0_24]; · (isplitr; · iexact IrsR0_24); iexact ArsR0_24
  iexact HO

attribute [local sl_rounds] duties_dma amount_dma expect_dma pay_rsR in
set_option maxHeartbeats 4000000 in
theorem part47_spec (c : Dev nD) (v2 : BitVec 32) (v1168 : BitVec 32) (W : Waits sig Unit) (Q : (BitVec 32) → sProp 𝕄) :
    iprop(recvRes m K rsR c 0 25
      ∗ recvRes m K rsR c 0 26
      ∗ levAts L lv
      ∗ owes (c : Thread nD τ) (owedAfter c 93) W
      ∗ (∀ r, (((slot 0 25).view.loc (c : Thread nD τ) ↦[(slot 0 25).view.set]{fullShare} (slot 0 25).view.rep (sent m (bwd c 25) c 0))
        ∗ (cellInv ER (sched m) (K (dmaCell c rsR 0 25)) (dmaCell c rsR 0 25) ∗ atPos ER (dmaCell c rsR 0 25) 1 ∅ 0)
        ∗ ((slot 0 26).view.loc (c : Thread nD τ) ↦[(slot 0 26).view.set]{fullShare} (slot 0 26).view.rep (sent m (bwd c 26) c 0))
        ∗ (cellInv ER (sched m) (K (dmaCell c rsR 0 26)) (dmaCell c rsR 0 26) ∗ atPos ER (dmaCell c rsR 0 26) 1 ∅ 0)
        ∗ owes (c : Thread nD τ) (owedAfter c 93) (insert (SemLoc.dma (semAt (arr rsR) 0 26), ()) (insert (SemLoc.dma (semAt (arr rsR) 0 25), ()) (W)))) -∗ Q r))
      ⊢ wp frame (wpE (defs₀ (F := F)) 𝒱₀ c none) Set.univ (k0_part47 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1168) Q := by
  unfold recvRes
  iintro ⟨⟨#IrsR0_25, ArsR0_25, CrsR0_25⟩, ⟨#IrsR0_26, ArsR0_26, CrsR0_26⟩, #Hlev, HO, Hk⟩
  have hmwrsR0_25 := mayWait_rsR0 (F := F) c 25
  have hmwrsR0_26 := mayWait_rsR0 (F := F) c 26
  sl_exec_parts
  sl_step
  iapply Hk
  isplitl [ArsR0_25_pay1]; · iexact ArsR0_25_pay1
  isplitl [ArsR0_25]; · (isplitr; · iexact IrsR0_25); iexact ArsR0_25
  isplitl [ArsR0_26_pay1]; · iexact ArsR0_26_pay1
  isplitl [ArsR0_26]; · (isplitr; · iexact IrsR0_26); iexact ArsR0_26
  iexact HO

attribute [local sl_rounds] duties_dma amount_dma expect_dma pay_rsR in
set_option maxHeartbeats 4000000 in
theorem part48_spec (c : Dev nD) (v2 : BitVec 32) (v1191 : BitVec 32) (W : Waits sig Unit) (Q : (PUnit) → sProp 𝕄) :
    iprop(recvRes m K rsR c 0 27
      ∗ recvRes m K rsR c 0 28
      ∗ levAts L lv
      ∗ owes (c : Thread nD τ) (owedAfter c 93) W
      ∗ (∀ r, (((slot 0 27).view.loc (c : Thread nD τ) ↦[(slot 0 27).view.set]{fullShare} (slot 0 27).view.rep (sent m (bwd c 27) c 0))
        ∗ (cellInv ER (sched m) (K (dmaCell c rsR 0 27)) (dmaCell c rsR 0 27) ∗ atPos ER (dmaCell c rsR 0 27) 1 ∅ 0)
        ∗ ((slot 0 28).view.loc (c : Thread nD τ) ↦[(slot 0 28).view.set]{fullShare} (slot 0 28).view.rep (sent m (bwd c 28) c 0))
        ∗ (cellInv ER (sched m) (K (dmaCell c rsR 0 28)) (dmaCell c rsR 0 28) ∗ atPos ER (dmaCell c rsR 0 28) 1 ∅ 0)
        ∗ owes (c : Thread nD τ) (owedAfter c 93) (insert (SemLoc.dma (semAt (arr rsR) 0 28), ()) (insert (SemLoc.dma (semAt (arr rsR) 0 27), ()) (W)))) -∗ Q r))
      ⊢ wp frame (wpE (defs₀ (F := F)) 𝒱₀ c none) Set.univ (k0_part48 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1191) Q := by
  unfold recvRes
  iintro ⟨⟨#IrsR0_27, ArsR0_27, CrsR0_27⟩, ⟨#IrsR0_28, ArsR0_28, CrsR0_28⟩, #Hlev, HO, Hk⟩
  have hmwrsR0_27 := mayWait_rsR0 (F := F) c 27
  have hmwrsR0_28 := mayWait_rsR0 (F := F) c 28
  sl_exec_parts
  sl_step
  iapply Hk
  isplitl [ArsR0_27_pay1]; · iexact ArsR0_27_pay1
  isplitl [ArsR0_27]; · (isplitr; · iexact IrsR0_27); iexact ArsR0_27
  isplitl [ArsR0_28_pay1]; · iexact ArsR0_28_pay1
  isplitl [ArsR0_28]; · (isplitr; · iexact IrsR0_28); iexact ArsR0_28
  iexact HO

attribute [local sl_rounds] duties_dma amount_dma expect_dma pay_rsR in
set_option maxHeartbeats 4000000 in
theorem part49_spec (c : Dev nD) (v2 : BitVec 32) (W : Waits sig Unit) (Q : (PUnit) → sProp 𝕄) :
    iprop(recvRes m K rsR c 0 29
      ∗ recvRes m K rsR c 0 30
      ∗ levAts L lv
      ∗ owes (c : Thread nD τ) (owedAfter c 93) W
      ∗ (∀ r, (((slot 0 29).view.loc (c : Thread nD τ) ↦[(slot 0 29).view.set]{fullShare} (slot 0 29).view.rep (sent m (bwd c 29) c 0))
        ∗ (cellInv ER (sched m) (K (dmaCell c rsR 0 29)) (dmaCell c rsR 0 29) ∗ atPos ER (dmaCell c rsR 0 29) 1 ∅ 0)
        ∗ ((slot 0 30).view.loc (c : Thread nD τ) ↦[(slot 0 30).view.set]{fullShare} (slot 0 30).view.rep (sent m (bwd c 30) c 0))
        ∗ (cellInv ER (sched m) (K (dmaCell c rsR 0 30)) (dmaCell c rsR 0 30) ∗ atPos ER (dmaCell c rsR 0 30) 1 ∅ 0)
        ∗ owes (c : Thread nD τ) (owedAfter c 93) (insert (SemLoc.dma (semAt (arr rsR) 0 30), ()) (insert (SemLoc.dma (semAt (arr rsR) 0 29), ()) (W)))) -∗ Q r))
      ⊢ wp frame (wpE (defs₀ (F := F)) 𝒱₀ c none) Set.univ (k0_part49 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR0_29, ArsR0_29, CrsR0_29⟩, ⟨#IrsR0_30, ArsR0_30, CrsR0_30⟩, #Hlev, HO, Hk⟩
  have hmwrsR0_29 := mayWait_rsR0 (F := F) c 29
  have hmwrsR0_30 := mayWait_rsR0 (F := F) c 30
  sl_exec_parts
  sl_step
  iapply Hk
  isplitl [ArsR0_29_pay1]; · iexact ArsR0_29_pay1
  isplitl [ArsR0_29]; · (isplitr; · iexact IrsR0_29); iexact ArsR0_29
  isplitl [ArsR0_30_pay1]; · iexact ArsR0_30_pay1
  isplitl [ArsR0_30]; · (isplitr; · iexact IrsR0_30); iexact ArsR0_30
  iexact HO

end Cert.Kernel.AllReduce

end
-- ==== Proof.Word.BodyWaitsB.lean ====
/-
  The receive waits of the reduce phase, half 1.
  One statement per printed part of the kernel body, over the resources that part touches and nothing else.
-/
import proofs.«900438_g7700000000000439_dist_gemm_ar_m1024_k1024_n1024_f32_gelu_v7x_i32_1_alg».proof.Proof.Word.BodyTables
noncomputable section
namespace Cert.Kernel.AllReduce
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_rsR in
set_option maxHeartbeats 4000000 in
theorem part64_spec (c : Dev nD) (v2 : BitVec 32) (W : Waits sig Unit) (Q : (PUnit) → sProp 𝕄) :
    iprop(recvRes m K rsR c 1 1
      ∗ recvRes m K rsR c 1 2
      ∗ levAts L lv
      ∗ owes (c : Thread nD τ) (owedAfter c 124) W
      ∗ (∀ r, (((slot 1 1).view.loc (c : Thread nD τ) ↦[(slot 1 1).view.set]{fullShare} (slot 1 1).view.rep (sent m (bwd c 1) c 1))
        ∗ (cellInv ER (sched m) (K (dmaCell c rsR 1 1)) (dmaCell c rsR 1 1) ∗ atPos ER (dmaCell c rsR 1 1) 1 ∅ 0)
        ∗ ((slot 1 2).view.loc (c : Thread nD τ) ↦[(slot 1 2).view.set]{fullShare} (slot 1 2).view.rep (sent m (bwd c 2) c 1))
        ∗ (cellInv ER (sched m) (K (dmaCell c rsR 1 2)) (dmaCell c rsR 1 2) ∗ atPos ER (dmaCell c rsR 1 2) 1 ∅ 0)
        ∗ owes (c : Thread nD τ) (owedAfter c 124) (insert (SemLoc.dma (semAt (arr rsR) 1 2), ()) (insert (SemLoc.dma (semAt (arr rsR) 1 1), ()) (W)))) -∗ Q r))
      ⊢ wp frame (wpE (defs₀ (F := F)) 𝒱₀ c none) Set.univ (k0_part64 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR1_1, ArsR1_1, CrsR1_1⟩, ⟨#IrsR1_2, ArsR1_2, CrsR1_2⟩, #Hlev, HO, Hk⟩
  have hmwrsR1_1 := mayWait_rsR1 (F := F) c 1
  have hmwrsR1_2 := mayWait_rsR1 (F := F) c 2
  sl_exec_parts
  sl_step
  iapply Hk
  isplitl [ArsR1_1_pay1]; · iexact ArsR1_1_pay1
  isplitl [ArsR1_1]; · (isplitr; · iexact IrsR1_1); iexact ArsR1_1
  isplitl [ArsR1_2_pay1]; · iexact ArsR1_2_pay1
  isplitl [ArsR1_2]; · (isplitr; · iexact IrsR1_2); iexact ArsR1_2
  iexact HO

attribute [local sl_rounds] duties_dma amount_dma expect_dma pay_rsR in
set_option maxHeartbeats 4000000 in
theorem part65_spec (c : Dev nD) (v2 : BitVec 32) (W : Waits sig Unit) (Q : (PUnit) → sProp 𝕄) :
    iprop(recvRes m K rsR c 1 3
      ∗ recvRes m K rsR c 1 4
      ∗ levAts L lv
      ∗ owes (c : Thread nD τ) (owedAfter c 124) W
      ∗ (∀ r, (((slot 1 3).view.loc (c : Thread nD τ) ↦[(slot 1 3).view.set]{fullShare} (slot 1 3).view.rep (sent m (bwd c 3) c 1))
        ∗ (cellInv ER (sched m) (K (dmaCell c rsR 1 3)) (dmaCell c rsR 1 3) ∗ atPos ER (dmaCell c rsR 1 3) 1 ∅ 0)
        ∗ ((slot 1 4).view.loc (c : Thread nD τ) ↦[(slot 1 4).view.set]{fullShare} (slot 1 4).view.rep (sent m (bwd c 4) c 1))
        ∗ (cellInv ER (sched m) (K (dmaCell c rsR 1 4)) (dmaCell c rsR 1 4) ∗ atPos ER (dmaCell c rsR 1 4) 1 ∅ 0)
        ∗ owes (c : Thread nD τ) (owedAfter c 124) (insert (SemLoc.dma (semAt (arr rsR) 1 4), ()) (insert (SemLoc.dma (semAt (arr rsR) 1 3), ()) (W)))) -∗ Q r))
      ⊢ wp frame (wpE (defs₀ (F := F)) 𝒱₀ c none) Set.univ (k0_part65 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR1_3, ArsR1_3, CrsR1_3⟩, ⟨#IrsR1_4, ArsR1_4, CrsR1_4⟩, #Hlev, HO, Hk⟩
  have hmwrsR1_3 := mayWait_rsR1 (F := F) c 3
  have hmwrsR1_4 := mayWait_rsR1 (F := F) c 4
  sl_exec_parts
  sl_step
  iapply Hk
  isplitl [ArsR1_3_pay1]; · iexact ArsR1_3_pay1
  isplitl [ArsR1_3]; · (isplitr; · iexact IrsR1_3); iexact ArsR1_3
  isplitl [ArsR1_4_pay1]; · iexact ArsR1_4_pay1
  isplitl [ArsR1_4]; · (isplitr; · iexact IrsR1_4); iexact ArsR1_4
  iexact HO

attribute [local sl_rounds] duties_dma amount_dma expect_dma pay_rsR in
set_option maxHeartbeats 4000000 in
theorem part66_spec (c : Dev nD) (v2 : BitVec 32) (W : Waits sig Unit) (Q : (PUnit) → sProp 𝕄) :
    iprop(recvRes m K rsR c 1 5
      ∗ recvRes m K rsR c 1 6
      ∗ levAts L lv
      ∗ owes (c : Thread nD τ) (owedAfter c 124) W
      ∗ (∀ r, (((slot 1 5).view.loc (c : Thread nD τ) ↦[(slot 1 5).view.set]{fullShare} (slot 1 5).view.rep (sent m (bwd c 5) c 1))
        ∗ (cellInv ER (sched m) (K (dmaCell c rsR 1 5)) (dmaCell c rsR 1 5) ∗ atPos ER (dmaCell c rsR 1 5) 1 ∅ 0)
        ∗ ((slot 1 6).view.loc (c : Thread nD τ) ↦[(slot 1 6).view.set]{fullShare} (slot 1 6).view.rep (sent m (bwd c 6) c 1))
        ∗ (cellInv ER (sched m) (K (dmaCell c rsR 1 6)) (dmaCell c rsR 1 6) ∗ atPos ER (dmaCell c rsR 1 6) 1 ∅ 0)
        ∗ owes (c : Thread nD τ) (owedAfter c 124) (insert (SemLoc.dma (semAt (arr rsR) 1 6), ()) (insert (SemLoc.dma (semAt (arr rsR) 1 5), ()) (W)))) -∗ Q r))
      ⊢ wp frame (wpE (defs₀ (F := F)) 𝒱₀ c none) Set.univ (k0_part66 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR1_5, ArsR1_5, CrsR1_5⟩, ⟨#IrsR1_6, ArsR1_6, CrsR1_6⟩, #Hlev, HO, Hk⟩
  have hmwrsR1_5 := mayWait_rsR1 (F := F) c 5
  have hmwrsR1_6 := mayWait_rsR1 (F := F) c 6
  sl_exec_parts
  sl_step
  iapply Hk
  isplitl [ArsR1_5_pay1]; · iexact ArsR1_5_pay1
  isplitl [ArsR1_5]; · (isplitr; · iexact IrsR1_5); iexact ArsR1_5
  isplitl [ArsR1_6_pay1]; · iexact ArsR1_6_pay1
  isplitl [ArsR1_6]; · (isplitr; · iexact IrsR1_6); iexact ArsR1_6
  iexact HO

attribute [local sl_rounds] duties_dma amount_dma expect_dma pay_rsR in
set_option maxHeartbeats 4000000 in
theorem part67_spec (c : Dev nD) (v2 : BitVec 32) (W : Waits sig Unit) (Q : (PUnit) → sProp 𝕄) :
    iprop(recvRes m K rsR c 1 7
      ∗ recvRes m K rsR c 1 8
      ∗ recvRes m K rsR c 1 9
      ∗ levAts L lv
      ∗ owes (c : Thread nD τ) (owedAfter c 124) W
      ∗ (∀ r, (((slot 1 7).view.loc (c : Thread nD τ) ↦[(slot 1 7).view.set]{fullShare} (slot 1 7).view.rep (sent m (bwd c 7) c 1))
        ∗ (cellInv ER (sched m) (K (dmaCell c rsR 1 7)) (dmaCell c rsR 1 7) ∗ atPos ER (dmaCell c rsR 1 7) 1 ∅ 0)
        ∗ ((slot 1 8).view.loc (c : Thread nD τ) ↦[(slot 1 8).view.set]{fullShare} (slot 1 8).view.rep (sent m (bwd c 8) c 1))
        ∗ (cellInv ER (sched m) (K (dmaCell c rsR 1 8)) (dmaCell c rsR 1 8) ∗ atPos ER (dmaCell c rsR 1 8) 1 ∅ 0)
        ∗ ((slot 1 9).view.loc (c : Thread nD τ) ↦[(slot 1 9).view.set]{fullShare} (slot 1 9).view.rep (sent m (bwd c 9) c 1))
        ∗ (cellInv ER (sched m) (K (dmaCell c rsR 1 9)) (dmaCell c rsR 1 9) ∗ atPos ER (dmaCell c rsR 1 9) 1 ∅ 0)
        ∗ owes (c : Thread nD τ) (owedAfter c 124) (insert (SemLoc.dma (semAt (arr rsR) 1 9), ()) (insert (SemLoc.dma (semAt (arr rsR) 1 8), ()) (insert (SemLoc.dma (semAt (arr rsR) 1 7), ()) (W))))) -∗ Q r))
      ⊢ wp frame (wpE (defs₀ (F := F)) 𝒱₀ c none) Set.univ (k0_part67 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR1_7, ArsR1_7, CrsR1_7⟩, ⟨#IrsR1_8, ArsR1_8, CrsR1_8⟩, ⟨#IrsR1_9, ArsR1_9, CrsR1_9⟩, #Hlev, HO, Hk⟩
  have hmwrsR1_7 := mayWait_rsR1 (F := F) c 7
  have hmwrsR1_8 := mayWait_rsR1 (F := F) c 8
  have hmwrsR1_9 := mayWait_rsR1 (F := F) c 9
  sl_exec_parts
  sl_step
  iapply Hk
  isplitl [ArsR1_7_pay1]; · iexact ArsR1_7_pay1
  isplitl [ArsR1_7]; · (isplitr; · iexact IrsR1_7); iexact ArsR1_7
  isplitl [ArsR1_8_pay1]; · iexact ArsR1_8_pay1
  isplitl [ArsR1_8]; · (isplitr; · iexact IrsR1_8); iexact ArsR1_8
  isplitl [ArsR1_9_pay1]; · iexact ArsR1_9_pay1
  isplitl [ArsR1_9]; · (isplitr; · iexact IrsR1_9); iexact ArsR1_9
  iexact HO

attribute [local sl_rounds] duties_dma amount_dma expect_dma pay_rsR in
set_option maxHeartbeats 4000000 in
theorem part68_spec (c : Dev nD) (v2 : BitVec 32) (W : Waits sig Unit) (Q : (BitVec 32) → sProp 𝕄) :
    iprop(recvRes m K rsR c 1 10
      ∗ recvRes m K rsR c 1 11
      ∗ levAts L lv
      ∗ owes (c : Thread nD τ) (owedAfter c 124) W
      ∗ (∀ r, (((slot 1 10).view.loc (c : Thread nD τ) ↦[(slot 1 10).view.set]{fullShare} (slot 1 10).view.rep (sent m (bwd c 10) c 1))
        ∗ (cellInv ER (sched m) (K (dmaCell c rsR 1 10)) (dmaCell c rsR 1 10) ∗ atPos ER (dmaCell c rsR 1 10) 1 ∅ 0)
        ∗ ((slot 1 11).view.loc (c : Thread nD τ) ↦[(slot 1 11).view.set]{fullShare} (slot 1 11).view.rep (sent m (bwd c 11) c 1))
        ∗ (cellInv ER (sched m) (K (dmaCell c rsR 1 11)) (dmaCell c rsR 1 11) ∗ atPos ER (dmaCell c rsR 1 11) 1 ∅ 0)
        ∗ owes (c : Thread nD τ) (owedAfter c 124) (insert (SemLoc.dma (semAt (arr rsR) 1 11), ()) (insert (SemLoc.dma (semAt (arr rsR) 1 10), ()) (W)))) -∗ Q r))
      ⊢ wp frame (wpE (defs₀ (F := F)) 𝒱₀ c none) Set.univ (k0_part68 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR1_10, ArsR1_10, CrsR1_10⟩, ⟨#IrsR1_11, ArsR1_11, CrsR1_11⟩, #Hlev, HO, Hk⟩
  have hmwrsR1_10 := mayWait_rsR1 (F := F) c 10
  have hmwrsR1_11 := mayWait_rsR1 (F := F) c 11
  sl_exec_parts
  sl_step
  iapply Hk
  isplitl [ArsR1_10_pay1]; · iexact ArsR1_10_pay1
  isplitl [ArsR1_10]; · (isplitr; · iexact IrsR1_10); iexact ArsR1_10
  isplitl [ArsR1_11_pay1]; · iexact ArsR1_11_pay1
  isplitl [ArsR1_11]; · (isplitr; · iexact IrsR1_11); iexact ArsR1_11
  iexact HO

attribute [local sl_rounds] duties_dma amount_dma expect_dma pay_rsR in
set_option maxHeartbeats 4000000 in
theorem part69_spec (c : Dev nD) (v2 : BitVec 32) (v1759 : BitVec 32) (W : Waits sig Unit) (Q : (BitVec 32) → sProp 𝕄) :
    iprop(recvRes m K rsR c 1 12
      ∗ recvRes m K rsR c 1 13
      ∗ levAts L lv
      ∗ owes (c : Thread nD τ) (owedAfter c 124) W
      ∗ (∀ r, (((slot 1 12).view.loc (c : Thread nD τ) ↦[(slot 1 12).view.set]{fullShare} (slot 1 12).view.rep (sent m (bwd c 12) c 1))
        ∗ (cellInv ER (sched m) (K (dmaCell c rsR 1 12)) (dmaCell c rsR 1 12) ∗ atPos ER (dmaCell c rsR 1 12) 1 ∅ 0)
        ∗ ((slot 1 13).view.loc (c : Thread nD τ) ↦[(slot 1 13).view.set]{fullShare} (slot 1 13).view.rep (sent m (bwd c 13) c 1))
        ∗ (cellInv ER (sched m) (K (dmaCell c rsR 1 13)) (dmaCell c rsR 1 13) ∗ atPos ER (dmaCell c rsR 1 13) 1 ∅ 0)
        ∗ owes (c : Thread nD τ) (owedAfter c 124) (insert (SemLoc.dma (semAt (arr rsR) 1 13), ()) (insert (SemLoc.dma (semAt (arr rsR) 1 12), ()) (W)))) -∗ Q r))
      ⊢ wp frame (wpE (defs₀ (F := F)) 𝒱₀ c none) Set.univ (k0_part69 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1759) Q := by
  unfold recvRes
  iintro ⟨⟨#IrsR1_12, ArsR1_12, CrsR1_12⟩, ⟨#IrsR1_13, ArsR1_13, CrsR1_13⟩, #Hlev, HO, Hk⟩
  have hmwrsR1_12 := mayWait_rsR1 (F := F) c 12
  have hmwrsR1_13 := mayWait_rsR1 (F := F) c 13
  sl_exec_parts
  sl_step
  iapply Hk
  isplitl [ArsR1_12_pay1]; · iexact ArsR1_12_pay1
  isplitl [ArsR1_12]; · (isplitr; · iexact IrsR1_12); iexact ArsR1_12
  isplitl [ArsR1_13_pay1]; · iexact ArsR1_13_pay1
  isplitl [ArsR1_13]; · (isplitr; · iexact IrsR1_13); iexact ArsR1_13
  iexact HO

attribute [local sl_rounds] duties_dma amount_dma expect_dma pay_rsR in
set_option maxHeartbeats 4000000 in
theorem part70_spec (c : Dev nD) (v2 : BitVec 32) (v1782 : BitVec 32) (W : Waits sig Unit) (Q : (BitVec 32) → sProp 𝕄) :
    iprop(recvRes m K rsR c 1 14
      ∗ recvRes m K rsR c 1 15
      ∗ levAts L lv
      ∗ owes (c : Thread nD τ) (owedAfter c 124) W
      ∗ (∀ r, (((slot 1 14).view.loc (c : Thread nD τ) ↦[(slot 1 14).view.set]{fullShare} (slot 1 14).view.rep (sent m (bwd c 14) c 1))
        ∗ (cellInv ER (sched m) (K (dmaCell c rsR 1 14)) (dmaCell c rsR 1 14) ∗ atPos ER (dmaCell c rsR 1 14) 1 ∅ 0)
        ∗ ((slot 1 15).view.loc (c : Thread nD τ) ↦[(slot 1 15).view.set]{fullShare} (slot 1 15).view.rep (sent m (bwd c 15) c 1))
        ∗ (cellInv ER (sched m) (K (dmaCell c rsR 1 15)) (dmaCell c rsR 1 15) ∗ atPos ER (dmaCell c rsR 1 15) 1 ∅ 0)
        ∗ owes (c : Thread nD τ) (owedAfter c 124) (insert (SemLoc.dma (semAt (arr rsR) 1 15), ()) (insert (SemLoc.dma (semAt (arr rsR) 1 14), ()) (W)))) -∗ Q r))
      ⊢ wp frame (wpE (defs₀ (F := F)) 𝒱₀ c none) Set.univ (k0_part70 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1782) Q := by
  unfold recvRes
  iintro ⟨⟨#IrsR1_14, ArsR1_14, CrsR1_14⟩, ⟨#IrsR1_15, ArsR1_15, CrsR1_15⟩, #Hlev, HO, Hk⟩
  have hmwrsR1_14 := mayWait_rsR1 (F := F) c 14
  have hmwrsR1_15 := mayWait_rsR1 (F := F) c 15
  sl_exec_parts
  sl_step
  iapply Hk
  isplitl [ArsR1_14_pay1]; · iexact ArsR1_14_pay1
  isplitl [ArsR1_14]; · (isplitr; · iexact IrsR1_14); iexact ArsR1_14
  isplitl [ArsR1_15_pay1]; · iexact ArsR1_15_pay1
  isplitl [ArsR1_15]; · (isplitr; · iexact IrsR1_15); iexact ArsR1_15
  iexact HO

attribute [local sl_rounds] duties_dma amount_dma expect_dma pay_rsR in
set_option maxHeartbeats 4000000 in
theorem part71_spec (c : Dev nD) (v2 : BitVec 32) (v1805 : BitVec 32) (W : Waits sig Unit) (Q : (BitVec 32) → sProp 𝕄) :
    iprop(recvRes m K rsR c 1 16
      ∗ recvRes m K rsR c 1 17
      ∗ levAts L lv
      ∗ owes (c : Thread nD τ) (owedAfter c 124) W
      ∗ (∀ r, (((slot 1 16).view.loc (c : Thread nD τ) ↦[(slot 1 16).view.set]{fullShare} (slot 1 16).view.rep (sent m (bwd c 16) c 1))
        ∗ (cellInv ER (sched m) (K (dmaCell c rsR 1 16)) (dmaCell c rsR 1 16) ∗ atPos ER (dmaCell c rsR 1 16) 1 ∅ 0)
        ∗ ((slot 1 17).view.loc (c : Thread nD τ) ↦[(slot 1 17).view.set]{fullShare} (slot 1 17).view.rep (sent m (bwd c 17) c 1))
        ∗ (cellInv ER (sched m) (K (dmaCell c rsR 1 17)) (dmaCell c rsR 1 17) ∗ atPos ER (dmaCell c rsR 1 17) 1 ∅ 0)
        ∗ owes (c : Thread nD τ) (owedAfter c 124) (insert (SemLoc.dma (semAt (arr rsR) 1 17), ()) (insert (SemLoc.dma (semAt (arr rsR) 1 16), ()) (W)))) -∗ Q r))
      ⊢ wp frame (wpE (defs₀ (F := F)) 𝒱₀ c none) Set.univ (k0_part71 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1805) Q := by
  unfold recvRes
  iintro ⟨⟨#IrsR1_16, ArsR1_16, CrsR1_16⟩, ⟨#IrsR1_17, ArsR1_17, CrsR1_17⟩, #Hlev, HO, Hk⟩
  have hmwrsR1_16 := mayWait_rsR1 (F := F) c 16
  have hmwrsR1_17 := mayWait_rsR1 (F := F) c 17
  sl_exec_parts
  sl_step
  iapply Hk
  isplitl [ArsR1_16_pay1]; · iexact ArsR1_16_pay1
  isplitl [ArsR1_16]; · (isplitr; · iexact IrsR1_16); iexact ArsR1_16
  isplitl [ArsR1_17_pay1]; · iexact ArsR1_17_pay1
  isplitl [ArsR1_17]; · (isplitr; · iexact IrsR1_17); iexact ArsR1_17
  iexact HO

attribute [local sl_rounds] duties_dma amount_dma expect_dma pay_rsR in
set_option maxHeartbeats 4000000 in
theorem part72_spec (c : Dev nD) (v2 : BitVec 32) (v1827 : BitVec 32) (W : Waits sig Unit) (Q : (BitVec 32) → sProp 𝕄) :
    iprop(recvRes m K rsR c 1 18
      ∗ recvRes m K rsR c 1 19
      ∗ levAts L lv
      ∗ owes (c : Thread nD τ) (owedAfter c 124) W
      ∗ (∀ r, (((slot 1 18).view.loc (c : Thread nD τ) ↦[(slot 1 18).view.set]{fullShare} (slot 1 18).view.rep (sent m (bwd c 18) c 1))
        ∗ (cellInv ER (sched m) (K (dmaCell c rsR 1 18)) (dmaCell c rsR 1 18) ∗ atPos ER (dmaCell c rsR 1 18) 1 ∅ 0)
        ∗ ((slot 1 19).view.loc (c : Thread nD τ) ↦[(slot 1 19).view.set]{fullShare} (slot 1 19).view.rep (sent m (bwd c 19) c 1))
        ∗ (cellInv ER (sched m) (K (dmaCell c rsR 1 19)) (dmaCell c rsR 1 19) ∗ atPos ER (dmaCell c rsR 1 19) 1 ∅ 0)
        ∗ owes (c : Thread nD τ) (owedAfter c 124) (insert (SemLoc.dma (semAt (arr rsR) 1 19), ()) (insert (SemLoc.dma (semAt (arr rsR) 1 18), ()) (W)))) -∗ Q r))
      ⊢ wp frame (wpE (defs₀ (F := F)) 𝒱₀ c none) Set.univ (k0_part72 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1827) Q := by
  unfold recvRes
  iintro ⟨⟨#IrsR1_18, ArsR1_18, CrsR1_18⟩, ⟨#IrsR1_19, ArsR1_19, CrsR1_19⟩, #Hlev, HO, Hk⟩
  have hmwrsR1_18 := mayWait_rsR1 (F := F) c 18
  have hmwrsR1_19 := mayWait_rsR1 (F := F) c 19
  sl_exec_parts
  sl_step
  iapply Hk
  isplitl [ArsR1_18_pay1]; · iexact ArsR1_18_pay1
  isplitl [ArsR1_18]; · (isplitr; · iexact IrsR1_18); iexact ArsR1_18
  isplitl [ArsR1_19_pay1]; · iexact ArsR1_19_pay1
  isplitl [ArsR1_19]; · (isplitr; · iexact IrsR1_19); iexact ArsR1_19
  iexact HO

attribute [local sl_rounds] duties_dma amount_dma expect_dma pay_rsR in
set_option maxHeartbeats 4000000 in
theorem part73_spec (c : Dev nD) (v2 : BitVec 32) (v1849 : BitVec 32) (W : Waits sig Unit) (Q : (BitVec 32) → sProp 𝕄) :
    iprop(recvRes m K rsR c 1 20
      ∗ recvRes m K rsR c 1 21
      ∗ levAts L lv
      ∗ owes (c : Thread nD τ) (owedAfter c 124) W
      ∗ (∀ r, (((slot 1 20).view.loc (c : Thread nD τ) ↦[(slot 1 20).view.set]{fullShare} (slot 1 20).view.rep (sent m (bwd c 20) c 1))
        ∗ (cellInv ER (sched m) (K (dmaCell c rsR 1 20)) (dmaCell c rsR 1 20) ∗ atPos ER (dmaCell c rsR 1 20) 1 ∅ 0)
        ∗ ((slot 1 21).view.loc (c : Thread nD τ) ↦[(slot 1 21).view.set]{fullShare} (slot 1 21).view.rep (sent m (bwd c 21) c 1))
        ∗ (cellInv ER (sched m) (K (dmaCell c rsR 1 21)) (dmaCell c rsR 1 21) ∗ atPos ER (dmaCell c rsR 1 21) 1 ∅ 0)
        ∗ owes (c : Thread nD τ) (owedAfter c 124) (insert (SemLoc.dma (semAt (arr rsR) 1 21), ()) (insert (SemLoc.dma (semAt (arr rsR) 1 20), ()) (W)))) -∗ Q r))
      ⊢ wp frame (wpE (defs₀ (F := F)) 𝒱₀ c none) Set.univ (k0_part73 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1849) Q := by
  unfold recvRes
  iintro ⟨⟨#IrsR1_20, ArsR1_20, CrsR1_20⟩, ⟨#IrsR1_21, ArsR1_21, CrsR1_21⟩, #Hlev, HO, Hk⟩
  have hmwrsR1_20 := mayWait_rsR1 (F := F) c 20
  have hmwrsR1_21 := mayWait_rsR1 (F := F) c 21
  sl_exec_parts
  sl_step
  iapply Hk
  isplitl [ArsR1_20_pay1]; · iexact ArsR1_20_pay1
  isplitl [ArsR1_20]; · (isplitr; · iexact IrsR1_20); iexact ArsR1_20
  isplitl [ArsR1_21_pay1]; · iexact ArsR1_21_pay1
  isplitl [ArsR1_21]; · (isplitr; · iexact IrsR1_21); iexact ArsR1_21
  iexact HO

attribute [local sl_rounds] duties_dma amount_dma expect_dma pay_rsR in
set_option maxHeartbeats 4000000 in
theorem part74_spec (c : Dev nD) (v2 : BitVec 32) (v1871 : BitVec 32) (W : Waits sig Unit) (Q : (BitVec 32) → sProp 𝕄) :
    iprop(recvRes m K rsR c 1 22
      ∗ recvRes m K rsR c 1 23
      ∗ levAts L lv
      ∗ owes (c : Thread nD τ) (owedAfter c 124) W
      ∗ (∀ r, (((slot 1 22).view.loc (c : Thread nD τ) ↦[(slot 1 22).view.set]{fullShare} (slot 1 22).view.rep (sent m (bwd c 22) c 1))
        ∗ (cellInv ER (sched m) (K (dmaCell c rsR 1 22)) (dmaCell c rsR 1 22) ∗ atPos ER (dmaCell c rsR 1 22) 1 ∅ 0)
        ∗ ((slot 1 23).view.loc (c : Thread nD τ) ↦[(slot 1 23).view.set]{fullShare} (slot 1 23).view.rep (sent m (bwd c 23) c 1))
        ∗ (cellInv ER (sched m) (K (dmaCell c rsR 1 23)) (dmaCell c rsR 1 23) ∗ atPos ER (dmaCell c rsR 1 23) 1 ∅ 0)
        ∗ owes (c : Thread nD τ) (owedAfter c 124) (insert (SemLoc.dma (semAt (arr rsR) 1 23), ()) (insert (SemLoc.dma (semAt (arr rsR) 1 22), ()) (W)))) -∗ Q r))
      ⊢ wp frame (wpE (defs₀ (F := F)) 𝒱₀ c none) Set.univ (k0_part74 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1871) Q := by
  unfold recvRes
  iintro ⟨⟨#IrsR1_22, ArsR1_22, CrsR1_22⟩, ⟨#IrsR1_23, ArsR1_23, CrsR1_23⟩, #Hlev, HO, Hk⟩
  have hmwrsR1_22 := mayWait_rsR1 (F := F) c 22
  have hmwrsR1_23 := mayWait_rsR1 (F := F) c 23
  sl_exec_parts
  sl_step
  iapply Hk
  isplitl [ArsR1_22_pay1]; · iexact ArsR1_22_pay1
  isplitl [ArsR1_22]; · (isplitr; · iexact IrsR1_22); iexact ArsR1_22
  isplitl [ArsR1_23_pay1]; · iexact ArsR1_23_pay1
  isplitl [ArsR1_23]; · (isplitr; · iexact IrsR1_23); iexact ArsR1_23
  iexact HO

attribute [local sl_rounds] duties_dma amount_dma expect_dma pay_rsR in
set_option maxHeartbeats 4000000 in
theorem part75_spec (c : Dev nD) (v2 : BitVec 32) (v1893 : BitVec 32) (W : Waits sig Unit) (Q : (BitVec 32) → sProp 𝕄) :
    iprop(recvRes m K rsR c 1 24
      ∗ recvRes m K rsR c 1 25
      ∗ levAts L lv
      ∗ owes (c : Thread nD τ) (owedAfter c 124) W
      ∗ (∀ r, (((slot 1 24).view.loc (c : Thread nD τ) ↦[(slot 1 24).view.set]{fullShare} (slot 1 24).view.rep (sent m (bwd c 24) c 1))
        ∗ (cellInv ER (sched m) (K (dmaCell c rsR 1 24)) (dmaCell c rsR 1 24) ∗ atPos ER (dmaCell c rsR 1 24) 1 ∅ 0)
        ∗ ((slot 1 25).view.loc (c : Thread nD τ) ↦[(slot 1 25).view.set]{fullShare} (slot 1 25).view.rep (sent m (bwd c 25) c 1))
        ∗ (cellInv ER (sched m) (K (dmaCell c rsR 1 25)) (dmaCell c rsR 1 25) ∗ atPos ER (dmaCell c rsR 1 25) 1 ∅ 0)
        ∗ owes (c : Thread nD τ) (owedAfter c 124) (insert (SemLoc.dma (semAt (arr rsR) 1 25), ()) (insert (SemLoc.dma (semAt (arr rsR) 1 24), ()) (W)))) -∗ Q r))
      ⊢ wp frame (wpE (defs₀ (F := F)) 𝒱₀ c none) Set.univ (k0_part75 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1893) Q := by
  unfold recvRes
  iintro ⟨⟨#IrsR1_24, ArsR1_24, CrsR1_24⟩, ⟨#IrsR1_25, ArsR1_25, CrsR1_25⟩, #Hlev, HO, Hk⟩
  have hmwrsR1_24 := mayWait_rsR1 (F := F) c 24
  have hmwrsR1_25 := mayWait_rsR1 (F := F) c 25
  sl_exec_parts
  sl_step
  iapply Hk
  isplitl [ArsR1_24_pay1]; · iexact ArsR1_24_pay1
  isplitl [ArsR1_24]; · (isplitr; · iexact IrsR1_24); iexact ArsR1_24
  isplitl [ArsR1_25_pay1]; · iexact ArsR1_25_pay1
  isplitl [ArsR1_25]; · (isplitr; · iexact IrsR1_25); iexact ArsR1_25
  iexact HO

attribute [local sl_rounds] duties_dma amount_dma expect_dma pay_rsR in
set_option maxHeartbeats 4000000 in
theorem part76_spec (c : Dev nD) (v2 : BitVec 32) (v1916 : BitVec 32) (W : Waits sig Unit) (Q : (PUnit) → sProp 𝕄) :
    iprop(recvRes m K rsR c 1 26
      ∗ recvRes m K rsR c 1 27
      ∗ levAts L lv
      ∗ owes (c : Thread nD τ) (owedAfter c 124) W
      ∗ (∀ r, (((slot 1 26).view.loc (c : Thread nD τ) ↦[(slot 1 26).view.set]{fullShare} (slot 1 26).view.rep (sent m (bwd c 26) c 1))
        ∗ (cellInv ER (sched m) (K (dmaCell c rsR 1 26)) (dmaCell c rsR 1 26) ∗ atPos ER (dmaCell c rsR 1 26) 1 ∅ 0)
        ∗ ((slot 1 27).view.loc (c : Thread nD τ) ↦[(slot 1 27).view.set]{fullShare} (slot 1 27).view.rep (sent m (bwd c 27) c 1))
        ∗ (cellInv ER (sched m) (K (dmaCell c rsR 1 27)) (dmaCell c rsR 1 27) ∗ atPos ER (dmaCell c rsR 1 27) 1 ∅ 0)
        ∗ owes (c : Thread nD τ) (owedAfter c 124) (insert (SemLoc.dma (semAt (arr rsR) 1 27), ()) (insert (SemLoc.dma (semAt (arr rsR) 1 26), ()) (W)))) -∗ Q r))
      ⊢ wp frame (wpE (defs₀ (F := F)) 𝒱₀ c none) Set.univ (k0_part76 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1916) Q := by
  unfold recvRes
  iintro ⟨⟨#IrsR1_26, ArsR1_26, CrsR1_26⟩, ⟨#IrsR1_27, ArsR1_27, CrsR1_27⟩, #Hlev, HO, Hk⟩
  have hmwrsR1_26 := mayWait_rsR1 (F := F) c 26
  have hmwrsR1_27 := mayWait_rsR1 (F := F) c 27
  sl_exec_parts
  sl_step
  iapply Hk
  isplitl [ArsR1_26_pay1]; · iexact ArsR1_26_pay1
  isplitl [ArsR1_26]; · (isplitr; · iexact IrsR1_26); iexact ArsR1_26
  isplitl [ArsR1_27_pay1]; · iexact ArsR1_27_pay1
  isplitl [ArsR1_27]; · (isplitr; · iexact IrsR1_27); iexact ArsR1_27
  iexact HO

attribute [local sl_rounds] duties_dma amount_dma expect_dma pay_rsR in
set_option maxHeartbeats 4000000 in
theorem part77_spec (c : Dev nD) (v2 : BitVec 32) (W : Waits sig Unit) (Q : (PUnit) → sProp 𝕄) :
    iprop(recvRes m K rsR c 1 28
      ∗ recvRes m K rsR c 1 29
      ∗ levAts L lv
      ∗ owes (c : Thread nD τ) (owedAfter c 124) W
      ∗ (∀ r, (((slot 1 28).view.loc (c : Thread nD τ) ↦[(slot 1 28).view.set]{fullShare} (slot 1 28).view.rep (sent m (bwd c 28) c 1))
        ∗ (cellInv ER (sched m) (K (dmaCell c rsR 1 28)) (dmaCell c rsR 1 28) ∗ atPos ER (dmaCell c rsR 1 28) 1 ∅ 0)
        ∗ ((slot 1 29).view.loc (c : Thread nD τ) ↦[(slot 1 29).view.set]{fullShare} (slot 1 29).view.rep (sent m (bwd c 29) c 1))
        ∗ (cellInv ER (sched m) (K (dmaCell c rsR 1 29)) (dmaCell c rsR 1 29) ∗ atPos ER (dmaCell c rsR 1 29) 1 ∅ 0)
        ∗ owes (c : Thread nD τ) (owedAfter c 124) (insert (SemLoc.dma (semAt (arr rsR) 1 29), ()) (insert (SemLoc.dma (semAt (arr rsR) 1 28), ()) (W)))) -∗ Q r))
      ⊢ wp frame (wpE (defs₀ (F := F)) 𝒱₀ c none) Set.univ (k0_part77 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes
  iintro ⟨⟨#IrsR1_28, ArsR1_28, CrsR1_28⟩, ⟨#IrsR1_29, ArsR1_29, CrsR1_29⟩, #Hlev, HO, Hk⟩
  have hmwrsR1_28 := mayWait_rsR1 (F := F) c 28
  have hmwrsR1_29 := mayWait_rsR1 (F := F) c 29
  sl_exec_parts
  sl_step
  iapply Hk
  isplitl [ArsR1_28_pay1]; · iexact ArsR1_28_pay1
  isplitl [ArsR1_28]; · (isplitr; · iexact IrsR1_28); iexact ArsR1_28
  isplitl [ArsR1_29_pay1]; · iexact ArsR1_29_pay1
  isplitl [ArsR1_29]; · (isplitr; · iexact IrsR1_29); iexact ArsR1_29
  iexact HO

end Cert.Kernel.AllReduce

end
-- ==== Proof.Word.BodyWaitsC.lean ====
/-
  The send waits of the reduce phase: each hands back the rows of the partial product that one copy read.
  One statement per printed part of the kernel body, over the resources that part touches and nothing else.
-/
import proofs.«900438_g7700000000000439_dist_gemm_ar_m1024_k1024_n1024_f32_gelu_v7x_i32_1_alg».proof.Proof.Word.BodyTables
noncomputable section
namespace Cert.Kernel.AllReduce
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_rsS in
set_option maxHeartbeats 4000000 in
theorem part93_spec (c : Dev nD)  (W : Waits sig Unit) (Q : (PUnit) → sProp 𝕄) :
    iprop(recvRes m K rsS c 0 4
      ∗ recvRes m K rsS c 0 5
      ∗ recvRes m K rsS c 0 6
      ∗ recvRes m K rsS c 0 7
      ∗ levAts L lv
      ∗ owes (c : Thread nD τ) (owedAfter c 155) W
      ∗ (∀ r, (((chunk accM (fwd c 4) 0).view.loc (c : Thread nD τ) ↦[(chunk accM (fwd c 4) 0).view.set]{fullShare} (chunk accM (fwd c 4) 0).view.rep (sent m c (fwd c 4) 0))
        ∗ (cellInv ER (sched m) (K (dmaCell c rsS 0 4)) (dmaCell c rsS 0 4) ∗ atPos ER (dmaCell c rsS 0 4) 1 ∅ 0)
        ∗ ((chunk accM (fwd c 5) 0).view.loc (c : Thread nD τ) ↦[(chunk accM (fwd c 5) 0).view.set]{fullShare} (chunk accM (fwd c 5) 0).view.rep (sent m c (fwd c 5) 0))
        ∗ (cellInv ER (sched m) (K (dmaCell c rsS 0 5)) (dmaCell c rsS 0 5) ∗ atPos ER (dmaCell c rsS 0 5) 1 ∅ 0)
        ∗ ((chunk accM (fwd c 6) 0).view.loc (c : Thread nD τ) ↦[(chunk accM (fwd c 6) 0).view.set]{fullShare} (chunk accM (fwd c 6) 0).view.rep (sent m c (fwd c 6) 0))
        ∗ (cellInv ER (sched m) (K (dmaCell c rsS 0 6)) (dmaCell c rsS 0 6) ∗ atPos ER (dmaCell c rsS 0 6) 1 ∅ 0)
        ∗ ((chunk accM (fwd c 7) 0).view.loc (c : Thread nD τ) ↦[(chunk accM (fwd c 7) 0).view.set]{fullShare} (chunk accM (fwd c 7) 0).view.rep (sent m c (fwd c 7) 0))
        ∗ (cellInv ER (sched m) (K (dmaCell c rsS 0 7)) (dmaCell c rsS 0 7) ∗ atPos ER (dmaCell c rsS 0 7) 1 ∅ 0)
        ∗ owes (c : Thread nD τ) (owedAfter c 155) (insert (SemLoc.dma (semAt (arr rsS) 0 7), ()) (insert (SemLoc.dma (semAt (arr rsS) 0 6), ()) (insert (SemLoc.dma (semAt (arr rsS) 0 5), ()) (insert (SemLoc.dma (semAt (arr rsS) 0 4), ()) (W)))))) -∗ Q r))
      ⊢ wp frame (wpE (defs₀ (F := F)) 𝒱₀ c none) Set.univ (k0_part93 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS0_4, ArsS0_4, CrsS0_4⟩, ⟨#IrsS0_5, ArsS0_5, CrsS0_5⟩, ⟨#IrsS0_6, ArsS0_6, CrsS0_6⟩, ⟨#IrsS0_7, ArsS0_7, CrsS0_7⟩, #Hlev, HO, Hk⟩
  have hmwrsS0_4 := mayWait_end (F := F) c (.dma (semAt (arr rsS) 0 4))
  have hmwrsS0_5 := mayWait_end (F := F) c (.dma (semAt (arr rsS) 0 5))
  have hmwrsS0_6 := mayWait_end (F := F) c (.dma (semAt (arr rsS) 0 6))
  have hmwrsS0_7 := mayWait_end (F := F) c (.dma (semAt (arr rsS) 0 7))
  sl_exec_parts
  sl_step
  iapply Hk
  isplitl [ArsS0_4_pay1]; · iexact ArsS0_4_pay1
  isplitl [ArsS0_4]; · (isplitr; · iexact IrsS0_4); iexact ArsS0_4
  isplitl [ArsS0_5_pay1]; · iexact ArsS0_5_pay1
  isplitl [ArsS0_5]; · (isplitr; · iexact IrsS0_5); iexact ArsS0_5
  isplitl [ArsS0_6_pay1]; · iexact ArsS0_6_pay1
  isplitl [ArsS0_6]; · (isplitr; · iexact IrsS0_6); iexact ArsS0_6
  isplitl [ArsS0_7_pay1]; · iexact ArsS0_7_pay1
  isplitl [ArsS0_7]; · (isplitr; · iexact IrsS0_7); iexact ArsS0_7
  iexact HO

attribute [local sl_rounds] duties_dma amount_dma expect_dma pay_rsS in
set_option maxHeartbeats 4000000 in
theorem part94_spec (c : Dev nD)  (W : Waits sig Unit) (Q : (PUnit) → sProp 𝕄) :
    iprop(recvRes m K rsS c 0 8
      ∗ recvRes m K rsS c 0 9
      ∗ recvRes m K rsS c 0 10
      ∗ levAts L lv
      ∗ owes (c : Thread nD τ) (owedAfter c 155) W
      ∗ (∀ r, (((chunk accM (fwd c 8) 0).view.loc (c : Thread nD τ) ↦[(chunk accM (fwd c 8) 0).view.set]{fullShare} (chunk accM (fwd c 8) 0).view.rep (sent m c (fwd c 8) 0))
        ∗ (cellInv ER (sched m) (K (dmaCell c rsS 0 8)) (dmaCell c rsS 0 8) ∗ atPos ER (dmaCell c rsS 0 8) 1 ∅ 0)
        ∗ ((chunk accM (fwd c 9) 0).view.loc (c : Thread nD τ) ↦[(chunk accM (fwd c 9) 0).view.set]{fullShare} (chunk accM (fwd c 9) 0).view.rep (sent m c (fwd c 9) 0))
        ∗ (cellInv ER (sched m) (K (dmaCell c rsS 0 9)) (dmaCell c rsS 0 9) ∗ atPos ER (dmaCell c rsS 0 9) 1 ∅ 0)
        ∗ ((chunk accM (fwd c 10) 0).view.loc (c : Thread nD τ) ↦[(chunk accM (fwd c 10) 0).view.set]{fullShare} (chunk accM (fwd c 10) 0).view.rep (sent m c (fwd c 10) 0))
        ∗ (cellInv ER (sched m) (K (dmaCell c rsS 0 10)) (dmaCell c rsS 0 10) ∗ atPos ER (dmaCell c rsS 0 10) 1 ∅ 0)
        ∗ owes (c : Thread nD τ) (owedAfter c 155) (insert (SemLoc.dma (semAt (arr rsS) 0 10), ()) (insert (SemLoc.dma (semAt (arr rsS) 0 9), ()) (insert (SemLoc.dma (semAt (arr rsS) 0 8), ()) (W))))) -∗ Q r))
      ⊢ wp frame (wpE (defs₀ (F := F)) 𝒱₀ c none) Set.univ (k0_part94 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS0_8, ArsS0_8, CrsS0_8⟩, ⟨#IrsS0_9, ArsS0_9, CrsS0_9⟩, ⟨#IrsS0_10, ArsS0_10, CrsS0_10⟩, #Hlev, HO, Hk⟩
  have hmwrsS0_8 := mayWait_end (F := F) c (.dma (semAt (arr rsS) 0 8))
  have hmwrsS0_9 := mayWait_end (F := F) c (.dma (semAt (arr rsS) 0 9))
  have hmwrsS0_10 := mayWait_end (F := F) c (.dma (semAt (arr rsS) 0 10))
  sl_exec_parts
  sl_step
  iapply Hk
  isplitl [ArsS0_8_pay1]; · iexact ArsS0_8_pay1
  isplitl [ArsS0_8]; · (isplitr; · iexact IrsS0_8); iexact ArsS0_8
  isplitl [ArsS0_9_pay1]; · iexact ArsS0_9_pay1
  isplitl [ArsS0_9]; · (isplitr; · iexact IrsS0_9); iexact ArsS0_9
  isplitl [ArsS0_10_pay1]; · iexact ArsS0_10_pay1
  isplitl [ArsS0_10]; · (isplitr; · iexact IrsS0_10); iexact ArsS0_10
  iexact HO

attribute [local sl_rounds] duties_dma amount_dma expect_dma pay_rsS in
set_option maxHeartbeats 4000000 in
theorem part95_spec (c : Dev nD)  (W : Waits sig Unit) (Q : (PUnit) → sProp 𝕄) :
    iprop(recvRes m K rsS c 0 11
      ∗ recvRes m K rsS c 0 12
      ∗ recvRes m K rsS c 0 13
      ∗ recvRes m K rsS c 0 14
      ∗ levAts L lv
      ∗ owes (c : Thread nD τ) (owedAfter c 155) W
      ∗ (∀ r, (((chunk accM (fwd c 11) 0).view.loc (c : Thread nD τ) ↦[(chunk accM (fwd c 11) 0).view.set]{fullShare} (chunk accM (fwd c 11) 0).view.rep (sent m c (fwd c 11) 0))
        ∗ (cellInv ER (sched m) (K (dmaCell c rsS 0 11)) (dmaCell c rsS 0 11) ∗ atPos ER (dmaCell c rsS 0 11) 1 ∅ 0)
        ∗ ((chunk accM (fwd c 12) 0).view.loc (c : Thread nD τ) ↦[(chunk accM (fwd c 12) 0).view.set]{fullShare} (chunk accM (fwd c 12) 0).view.rep (sent m c (fwd c 12) 0))
        ∗ (cellInv ER (sched m) (K (dmaCell c rsS 0 12)) (dmaCell c rsS 0 12) ∗ atPos ER (dmaCell c rsS 0 12) 1 ∅ 0)
        ∗ ((chunk accM (fwd c 13) 0).view.loc (c : Thread nD τ) ↦[(chunk accM (fwd c 13) 0).view.set]{fullShare} (chunk accM (fwd c 13) 0).view.rep (sent m c (fwd c 13) 0))
        ∗ (cellInv ER (sched m) (K (dmaCell c rsS 0 13)) (dmaCell c rsS 0 13) ∗ atPos ER (dmaCell c rsS 0 13) 1 ∅ 0)
        ∗ ((chunk accM (fwd c 14) 0).view.loc (c : Thread nD τ) ↦[(chunk accM (fwd c 14) 0).view.set]{fullShare} (chunk accM (fwd c 14) 0).view.rep (sent m c (fwd c 14) 0))
        ∗ (cellInv ER (sched m) (K (dmaCell c rsS 0 14)) (dmaCell c rsS 0 14) ∗ atPos ER (dmaCell c rsS 0 14) 1 ∅ 0)
        ∗ owes (c : Thread nD τ) (owedAfter c 155) (insert (SemLoc.dma (semAt (arr rsS) 0 14), ()) (insert (SemLoc.dma (semAt (arr rsS) 0 13), ()) (insert (SemLoc.dma (semAt (arr rsS) 0 12), ()) (insert (SemLoc.dma (semAt (arr rsS) 0 11), ()) (W)))))) -∗ Q r))
      ⊢ wp frame (wpE (defs₀ (F := F)) 𝒱₀ c none) Set.univ (k0_part95 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS0_11, ArsS0_11, CrsS0_11⟩, ⟨#IrsS0_12, ArsS0_12, CrsS0_12⟩, ⟨#IrsS0_13, ArsS0_13, CrsS0_13⟩, ⟨#IrsS0_14, ArsS0_14, CrsS0_14⟩, #Hlev, HO, Hk⟩
  have hmwrsS0_11 := mayWait_end (F := F) c (.dma (semAt (arr rsS) 0 11))
  have hmwrsS0_12 := mayWait_end (F := F) c (.dma (semAt (arr rsS) 0 12))
  have hmwrsS0_13 := mayWait_end (F := F) c (.dma (semAt (arr rsS) 0 13))
  have hmwrsS0_14 := mayWait_end (F := F) c (.dma (semAt (arr rsS) 0 14))
  sl_exec_parts
  sl_step
  iapply Hk
  isplitl [ArsS0_11_pay1]; · iexact ArsS0_11_pay1
  isplitl [ArsS0_11]; · (isplitr; · iexact IrsS0_11); iexact ArsS0_11
  isplitl [ArsS0_12_pay1]; · iexact ArsS0_12_pay1
  isplitl [ArsS0_12]; · (isplitr; · iexact IrsS0_12); iexact ArsS0_12
  isplitl [ArsS0_13_pay1]; · iexact ArsS0_13_pay1
  isplitl [ArsS0_13]; · (isplitr; · iexact IrsS0_13); iexact ArsS0_13
  isplitl [ArsS0_14_pay1]; · iexact ArsS0_14_pay1
  isplitl [ArsS0_14]; · (isplitr; · iexact IrsS0_14); iexact ArsS0_14
  iexact HO

attribute [local sl_rounds] duties_dma amount_dma expect_dma pay_rsS in
set_option maxHeartbeats 4000000 in
theorem part96_spec (c : Dev nD)  (W : Waits sig Unit) (Q : (PUnit) → sProp 𝕄) :
    iprop(recvRes m K rsS c 0 15
      ∗ recvRes m K rsS c 0 16
      ∗ recvRes m K rsS c 0 17
      ∗ recvRes m K rsS c 0 18
      ∗ levAts L lv
      ∗ owes (c : Thread nD τ) (owedAfter c 155) W
      ∗ (∀ r, (((chunk accM (fwd c 15) 0).view.loc (c : Thread nD τ) ↦[(chunk accM (fwd c 15) 0).view.set]{fullShare} (chunk accM (fwd c 15) 0).view.rep (sent m c (fwd c 15) 0))
        ∗ (cellInv ER (sched m) (K (dmaCell c rsS 0 15)) (dmaCell c rsS 0 15) ∗ atPos ER (dmaCell c rsS 0 15) 1 ∅ 0)
        ∗ ((chunk accM (fwd c 16) 0).view.loc (c : Thread nD τ) ↦[(chunk accM (fwd c 16) 0).view.set]{fullShare} (chunk accM (fwd c 16) 0).view.rep (sent m c (fwd c 16) 0))
        ∗ (cellInv ER (sched m) (K (dmaCell c rsS 0 16)) (dmaCell c rsS 0 16) ∗ atPos ER (dmaCell c rsS 0 16) 1 ∅ 0)
        ∗ ((chunk accM (fwd c 17) 0).view.loc (c : Thread nD τ) ↦[(chunk accM (fwd c 17) 0).view.set]{fullShare} (chunk accM (fwd c 17) 0).view.rep (sent m c (fwd c 17) 0))
        ∗ (cellInv ER (sched m) (K (dmaCell c rsS 0 17)) (dmaCell c rsS 0 17) ∗ atPos ER (dmaCell c rsS 0 17) 1 ∅ 0)
        ∗ ((chunk accM (fwd c 18) 0).view.loc (c : Thread nD τ) ↦[(chunk accM (fwd c 18) 0).view.set]{fullShare} (chunk accM (fwd c 18) 0).view.rep (sent m c (fwd c 18) 0))
        ∗ (cellInv ER (sched m) (K (dmaCell c rsS 0 18)) (dmaCell c rsS 0 18) ∗ atPos ER (dmaCell c rsS 0 18) 1 ∅ 0)
        ∗ owes (c : Thread nD τ) (owedAfter c 155) (insert (SemLoc.dma (semAt (arr rsS) 0 18), ()) (insert (SemLoc.dma (semAt (arr rsS) 0 17), ()) (insert (SemLoc.dma (semAt (arr rsS) 0 16), ()) (insert (SemLoc.dma (semAt (arr rsS) 0 15), ()) (W)))))) -∗ Q r))
      ⊢ wp frame (wpE (defs₀ (F := F)) 𝒱₀ c none) Set.univ (k0_part96 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS0_15, ArsS0_15, CrsS0_15⟩, ⟨#IrsS0_16, ArsS0_16, CrsS0_16⟩, ⟨#IrsS0_17, ArsS0_17, CrsS0_17⟩, ⟨#IrsS0_18, ArsS0_18, CrsS0_18⟩, #Hlev, HO, Hk⟩
  have hmwrsS0_15 := mayWait_end (F := F) c (.dma (semAt (arr rsS) 0 15))
  have hmwrsS0_16 := mayWait_end (F := F) c (.dma (semAt (arr rsS) 0 16))
  have hmwrsS0_17 := mayWait_end (F := F) c (.dma (semAt (arr rsS) 0 17))
  have hmwrsS0_18 := mayWait_end (F := F) c (.dma (semAt (arr rsS) 0 18))
  sl_exec_parts
  sl_step
  iapply Hk
  isplitl [ArsS0_15_pay1]; · iexact ArsS0_15_pay1
  isplitl [ArsS0_15]; · (isplitr; · iexact IrsS0_15); iexact ArsS0_15
  isplitl [ArsS0_16_pay1]; · iexact ArsS0_16_pay1
  isplitl [ArsS0_16]; · (isplitr; · iexact IrsS0_16); iexact ArsS0_16
  isplitl [ArsS0_17_pay1]; · iexact ArsS0_17_pay1
  isplitl [ArsS0_17]; · (isplitr; · iexact IrsS0_17); iexact ArsS0_17
  isplitl [ArsS0_18_pay1]; · iexact ArsS0_18_pay1
  isplitl [ArsS0_18]; · (isplitr; · iexact IrsS0_18); iexact ArsS0_18
  iexact HO

attribute [local sl_rounds] duties_dma amount_dma expect_dma pay_rsS in
set_option maxHeartbeats 4000000 in
theorem part97_spec (c : Dev nD)  (W : Waits sig Unit) (Q : (PUnit) → sProp 𝕄) :
    iprop(recvRes m K rsS c 0 19
      ∗ recvRes m K rsS c 0 20
      ∗ recvRes m K rsS c 0 21
      ∗ recvRes m K rsS c 0 22
      ∗ levAts L lv
      ∗ owes (c : Thread nD τ) (owedAfter c 155) W
      ∗ (∀ r, (((chunk accM (fwd c 19) 0).view.loc (c : Thread nD τ) ↦[(chunk accM (fwd c 19) 0).view.set]{fullShare} (chunk accM (fwd c 19) 0).view.rep (sent m c (fwd c 19) 0))
        ∗ (cellInv ER (sched m) (K (dmaCell c rsS 0 19)) (dmaCell c rsS 0 19) ∗ atPos ER (dmaCell c rsS 0 19) 1 ∅ 0)
        ∗ ((chunk accM (fwd c 20) 0).view.loc (c : Thread nD τ) ↦[(chunk accM (fwd c 20) 0).view.set]{fullShare} (chunk accM (fwd c 20) 0).view.rep (sent m c (fwd c 20) 0))
        ∗ (cellInv ER (sched m) (K (dmaCell c rsS 0 20)) (dmaCell c rsS 0 20) ∗ atPos ER (dmaCell c rsS 0 20) 1 ∅ 0)
        ∗ ((chunk accM (fwd c 21) 0).view.loc (c : Thread nD τ) ↦[(chunk accM (fwd c 21) 0).view.set]{fullShare} (chunk accM (fwd c 21) 0).view.rep (sent m c (fwd c 21) 0))
        ∗ (cellInv ER (sched m) (K (dmaCell c rsS 0 21)) (dmaCell c rsS 0 21) ∗ atPos ER (dmaCell c rsS 0 21) 1 ∅ 0)
        ∗ ((chunk accM (fwd c 22) 0).view.loc (c : Thread nD τ) ↦[(chunk accM (fwd c 22) 0).view.set]{fullShare} (chunk accM (fwd c 22) 0).view.rep (sent m c (fwd c 22) 0))
        ∗ (cellInv ER (sched m) (K (dmaCell c rsS 0 22)) (dmaCell c rsS 0 22) ∗ atPos ER (dmaCell c rsS 0 22) 1 ∅ 0)
        ∗ owes (c : Thread nD τ) (owedAfter c 155) (insert (SemLoc.dma (semAt (arr rsS) 0 22), ()) (insert (SemLoc.dma (semAt (arr rsS) 0 21), ()) (insert (SemLoc.dma (semAt (arr rsS) 0 20), ()) (insert (SemLoc.dma (semAt (arr rsS) 0 19), ()) (W)))))) -∗ Q r))
      ⊢ wp frame (wpE (defs₀ (F := F)) 𝒱₀ c none) Set.univ (k0_part97 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS0_19, ArsS0_19, CrsS0_19⟩, ⟨#IrsS0_20, ArsS0_20, CrsS0_20⟩, ⟨#IrsS0_21, ArsS0_21, CrsS0_21⟩, ⟨#IrsS0_22, ArsS0_22, CrsS0_22⟩, #Hlev, HO, Hk⟩
  have hmwrsS0_19 := mayWait_end (F := F) c (.dma (semAt (arr rsS) 0 19))
  have hmwrsS0_20 := mayWait_end (F := F) c (.dma (semAt (arr rsS) 0 20))
  have hmwrsS0_21 := mayWait_end (F := F) c (.dma (semAt (arr rsS) 0 21))
  have hmwrsS0_22 := mayWait_end (F := F) c (.dma (semAt (arr rsS) 0 22))
  sl_exec_parts
  sl_step
  iapply Hk
  isplitl [ArsS0_19_pay1]; · iexact ArsS0_19_pay1
  isplitl [ArsS0_19]; · (isplitr; · iexact IrsS0_19); iexact ArsS0_19
  isplitl [ArsS0_20_pay1]; · iexact ArsS0_20_pay1
  isplitl [ArsS0_20]; · (isplitr; · iexact IrsS0_20); iexact ArsS0_20
  isplitl [ArsS0_21_pay1]; · iexact ArsS0_21_pay1
  isplitl [ArsS0_21]; · (isplitr; · iexact IrsS0_21); iexact ArsS0_21
  isplitl [ArsS0_22_pay1]; · iexact ArsS0_22_pay1
  isplitl [ArsS0_22]; · (isplitr; · iexact IrsS0_22); iexact ArsS0_22
  iexact HO

attribute [local sl_rounds] duties_dma amount_dma expect_dma pay_rsS in
set_option maxHeartbeats 4000000 in
theorem part98_spec (c : Dev nD)  (W : Waits sig Unit) (Q : (PUnit) → sProp 𝕄) :
    iprop(recvRes m K rsS c 0 23
      ∗ recvRes m K rsS c 0 24
      ∗ recvRes m K rsS c 0 25
      ∗ levAts L lv
      ∗ owes (c : Thread nD τ) (owedAfter c 155) W
      ∗ (∀ r, (((chunk accM (fwd c 23) 0).view.loc (c : Thread nD τ) ↦[(chunk accM (fwd c 23) 0).view.set]{fullShare} (chunk accM (fwd c 23) 0).view.rep (sent m c (fwd c 23) 0))
        ∗ (cellInv ER (sched m) (K (dmaCell c rsS 0 23)) (dmaCell c rsS 0 23) ∗ atPos ER (dmaCell c rsS 0 23) 1 ∅ 0)
        ∗ ((chunk accM (fwd c 24) 0).view.loc (c : Thread nD τ) ↦[(chunk accM (fwd c 24) 0).view.set]{fullShare} (chunk accM (fwd c 24) 0).view.rep (sent m c (fwd c 24) 0))
        ∗ (cellInv ER (sched m) (K (dmaCell c rsS 0 24)) (dmaCell c rsS 0 24) ∗ atPos ER (dmaCell c rsS 0 24) 1 ∅ 0)
        ∗ ((chunk accM (fwd c 25) 0).view.loc (c : Thread nD τ) ↦[(chunk accM (fwd c 25) 0).view.set]{fullShare} (chunk accM (fwd c 25) 0).view.rep (sent m c (fwd c 25) 0))
        ∗ (cellInv ER (sched m) (K (dmaCell c rsS 0 25)) (dmaCell c rsS 0 25) ∗ atPos ER (dmaCell c rsS 0 25) 1 ∅ 0)
        ∗ owes (c : Thread nD τ) (owedAfter c 155) (insert (SemLoc.dma (semAt (arr rsS) 0 25), ()) (insert (SemLoc.dma (semAt (arr rsS) 0 24), ()) (insert (SemLoc.dma (semAt (arr rsS) 0 23), ()) (W))))) -∗ Q r))
      ⊢ wp frame (wpE (defs₀ (F := F)) 𝒱₀ c none) Set.univ (k0_part98 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS0_23, ArsS0_23, CrsS0_23⟩, ⟨#IrsS0_24, ArsS0_24, CrsS0_24⟩, ⟨#IrsS0_25, ArsS0_25, CrsS0_25⟩, #Hlev, HO, Hk⟩
  have hmwrsS0_23 := mayWait_end (F := F) c (.dma (semAt (arr rsS) 0 23))
  have hmwrsS0_24 := mayWait_end (F := F) c (.dma (semAt (arr rsS) 0 24))
  have hmwrsS0_25 := mayWait_end (F := F) c (.dma (semAt (arr rsS) 0 25))
  sl_exec_parts
  sl_step
  iapply Hk
  isplitl [ArsS0_23_pay1]; · iexact ArsS0_23_pay1
  isplitl [ArsS0_23]; · (isplitr; · iexact IrsS0_23); iexact ArsS0_23
  isplitl [ArsS0_24_pay1]; · iexact ArsS0_24_pay1
  isplitl [ArsS0_24]; · (isplitr; · iexact IrsS0_24); iexact ArsS0_24
  isplitl [ArsS0_25_pay1]; · iexact ArsS0_25_pay1
  isplitl [ArsS0_25]; · (isplitr; · iexact IrsS0_25); iexact ArsS0_25
  iexact HO

attribute [local sl_rounds] duties_dma amount_dma expect_dma pay_rsS in
set_option maxHeartbeats 4000000 in
theorem part99_spec (c : Dev nD)  (W : Waits sig Unit) (Q : (PUnit) → sProp 𝕄) :
    iprop(recvRes m K rsS c 0 26
      ∗ recvRes m K rsS c 0 27
      ∗ recvRes m K rsS c 0 28
      ∗ recvRes m K rsS c 0 29
      ∗ levAts L lv
      ∗ owes (c : Thread nD τ) (owedAfter c 155) W
      ∗ (∀ r, (((chunk accM (fwd c 26) 0).view.loc (c : Thread nD τ) ↦[(chunk accM (fwd c 26) 0).view.set]{fullShare} (chunk accM (fwd c 26) 0).view.rep (sent m c (fwd c 26) 0))
        ∗ (cellInv ER (sched m) (K (dmaCell c rsS 0 26)) (dmaCell c rsS 0 26) ∗ atPos ER (dmaCell c rsS 0 26) 1 ∅ 0)
        ∗ ((chunk accM (fwd c 27) 0).view.loc (c : Thread nD τ) ↦[(chunk accM (fwd c 27) 0).view.set]{fullShare} (chunk accM (fwd c 27) 0).view.rep (sent m c (fwd c 27) 0))
        ∗ (cellInv ER (sched m) (K (dmaCell c rsS 0 27)) (dmaCell c rsS 0 27) ∗ atPos ER (dmaCell c rsS 0 27) 1 ∅ 0)
        ∗ ((chunk accM (fwd c 28) 0).view.loc (c : Thread nD τ) ↦[(chunk accM (fwd c 28) 0).view.set]{fullShare} (chunk accM (fwd c 28) 0).view.rep (sent m c (fwd c 28) 0))
        ∗ (cellInv ER (sched m) (K (dmaCell c rsS 0 28)) (dmaCell c rsS 0 28) ∗ atPos ER (dmaCell c rsS 0 28) 1 ∅ 0)
        ∗ ((chunk accM (fwd c 29) 0).view.loc (c : Thread nD τ) ↦[(chunk accM (fwd c 29) 0).view.set]{fullShare} (chunk accM (fwd c 29) 0).view.rep (sent m c (fwd c 29) 0))
        ∗ (cellInv ER (sched m) (K (dmaCell c rsS 0 29)) (dmaCell c rsS 0 29) ∗ atPos ER (dmaCell c rsS 0 29) 1 ∅ 0)
        ∗ owes (c : Thread nD τ) (owedAfter c 155) (insert (SemLoc.dma (semAt (arr rsS) 0 29), ()) (insert (SemLoc.dma (semAt (arr rsS) 0 28), ()) (insert (SemLoc.dma (semAt (arr rsS) 0 27), ()) (insert (SemLoc.dma (semAt (arr rsS) 0 26), ()) (W)))))) -∗ Q r))
      ⊢ wp frame (wpE (defs₀ (F := F)) 𝒱₀ c none) Set.univ (k0_part99 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS0_26, ArsS0_26, CrsS0_26⟩, ⟨#IrsS0_27, ArsS0_27, CrsS0_27⟩, ⟨#IrsS0_28, ArsS0_28, CrsS0_28⟩, ⟨#IrsS0_29, ArsS0_29, CrsS0_29⟩, #Hlev, HO, Hk⟩
  have hmwrsS0_26 := mayWait_end (F := F) c (.dma (semAt (arr rsS) 0 26))
  have hmwrsS0_27 := mayWait_end (F := F) c (.dma (semAt (arr rsS) 0 27))
  have hmwrsS0_28 := mayWait_end (F := F) c (.dma (semAt (arr rsS) 0 28))
  have hmwrsS0_29 := mayWait_end (F := F) c (.dma (semAt (arr rsS) 0 29))
  sl_exec_parts
  sl_step
  iapply Hk
  isplitl [ArsS0_26_pay1]; · iexact ArsS0_26_pay1
  isplitl [ArsS0_26]; · (isplitr; · iexact IrsS0_26); iexact ArsS0_26
  isplitl [ArsS0_27_pay1]; · iexact ArsS0_27_pay1
  isplitl [ArsS0_27]; · (isplitr; · iexact IrsS0_27); iexact ArsS0_27
  isplitl [ArsS0_28_pay1]; · iexact ArsS0_28_pay1
  isplitl [ArsS0_28]; · (isplitr; · iexact IrsS0_28); iexact ArsS0_28
  isplitl [ArsS0_29_pay1]; · iexact ArsS0_29_pay1
  isplitl [ArsS0_29]; · (isplitr; · iexact IrsS0_29); iexact ArsS0_29
  iexact HO

attribute [local sl_rounds] duties_dma amount_dma expect_dma pay_rsS in
set_option maxHeartbeats 4000000 in
theorem part100_spec (c : Dev nD)  (W : Waits sig Unit) (Q : (PUnit) → sProp 𝕄) :
    iprop(recvRes m K rsS c 0 30
      ∗ recvRes m K rsS c 0 31
      ∗ recvRes m K rsS c 1 1
      ∗ recvRes m K rsS c 1 2
      ∗ levAts L lv
      ∗ owes (c : Thread nD τ) (owedAfter c 155) W
      ∗ (∀ r, (((chunk accM (fwd c 30) 0).view.loc (c : Thread nD τ) ↦[(chunk accM (fwd c 30) 0).view.set]{fullShare} (chunk accM (fwd c 30) 0).view.rep (sent m c (fwd c 30) 0))
        ∗ (cellInv ER (sched m) (K (dmaCell c rsS 0 30)) (dmaCell c rsS 0 30) ∗ atPos ER (dmaCell c rsS 0 30) 1 ∅ 0)
        ∗ ((chunk accM (fwd c 31) 0).view.loc (c : Thread nD τ) ↦[(chunk accM (fwd c 31) 0).view.set]{fullShare} (chunk accM (fwd c 31) 0).view.rep (sent m c (fwd c 31) 0))
        ∗ (cellInv ER (sched m) (K (dmaCell c rsS 0 31)) (dmaCell c rsS 0 31) ∗ atPos ER (dmaCell c rsS 0 31) 1 ∅ 0)
        ∗ ((chunk accM (fwd c 1) 1).view.loc (c : Thread nD τ) ↦[(chunk accM (fwd c 1) 1).view.set]{fullShare} (chunk accM (fwd c 1) 1).view.rep (sent m c (fwd c 1) 1))
        ∗ (cellInv ER (sched m) (K (dmaCell c rsS 1 1)) (dmaCell c rsS 1 1) ∗ atPos ER (dmaCell c rsS 1 1) 1 ∅ 0)
        ∗ ((chunk accM (fwd c 2) 1).view.loc (c : Thread nD τ) ↦[(chunk accM (fwd c 2) 1).view.set]{fullShare} (chunk accM (fwd c 2) 1).view.rep (sent m c (fwd c 2) 1))
        ∗ (cellInv ER (sched m) (K (dmaCell c rsS 1 2)) (dmaCell c rsS 1 2) ∗ atPos ER (dmaCell c rsS 1 2) 1 ∅ 0)
        ∗ owes (c : Thread nD τ) (owedAfter c 155) (insert (SemLoc.dma (semAt (arr rsS) 1 2), ()) (insert (SemLoc.dma (semAt (arr rsS) 1 1), ()) (insert (SemLoc.dma (semAt (arr rsS) 0 31), ()) (insert (SemLoc.dma (semAt (arr rsS) 0 30), ()) (W)))))) -∗ Q r))
      ⊢ wp frame (wpE (defs₀ (F := F)) 𝒱₀ c none) Set.univ (k0_part100 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS0_30, ArsS0_30, CrsS0_30⟩, ⟨#IrsS0_31, ArsS0_31, CrsS0_31⟩, ⟨#IrsS1_1, ArsS1_1, CrsS1_1⟩, ⟨#IrsS1_2, ArsS1_2, CrsS1_2⟩, #Hlev, HO, Hk⟩
  have hmwrsS0_30 := mayWait_end (F := F) c (.dma (semAt (arr rsS) 0 30))
  have hmwrsS0_31 := mayWait_end (F := F) c (.dma (semAt (arr rsS) 0 31))
  have hmwrsS1_1 := mayWait_end (F := F) c (.dma (semAt (arr rsS) 1 1))
  have hmwrsS1_2 := mayWait_end (F := F) c (.dma (semAt (arr rsS) 1 2))
  sl_exec_parts
  sl_step
  iapply Hk
  isplitl [ArsS0_30_pay1]; · iexact ArsS0_30_pay1
  isplitl [ArsS0_30]; · (isplitr; · iexact IrsS0_30); iexact ArsS0_30
  isplitl [ArsS0_31_pay1]; · iexact ArsS0_31_pay1
  isplitl [ArsS0_31]; · (isplitr; · iexact IrsS0_31); iexact ArsS0_31
  isplitl [ArsS1_1_pay1]; · iexact ArsS1_1_pay1
  isplitl [ArsS1_1]; · (isplitr; · iexact IrsS1_1); iexact ArsS1_1
  isplitl [ArsS1_2_pay1]; · iexact ArsS1_2_pay1
  isplitl [ArsS1_2]; · (isplitr; · iexact IrsS1_2); iexact ArsS1_2
  iexact HO

attribute [local sl_rounds] duties_dma amount_dma expect_dma pay_rsS in
set_option maxHeartbeats 4000000 in
theorem part101_spec (c : Dev nD)  (W : Waits sig Unit) (Q : (PUnit) → sProp 𝕄) :
    iprop(recvRes m K rsS c 1 3
      ∗ recvRes m K rsS c 1 4
      ∗ recvRes m K rsS c 1 5
      ∗ recvRes m K rsS c 1 6
      ∗ levAts L lv
      ∗ owes (c : Thread nD τ) (owedAfter c 155) W
      ∗ (∀ r, (((chunk accM (fwd c 3) 1).view.loc (c : Thread nD τ) ↦[(chunk accM (fwd c 3) 1).view.set]{fullShare} (chunk accM (fwd c 3) 1).view.rep (sent m c (fwd c 3) 1))
        ∗ (cellInv ER (sched m) (K (dmaCell c rsS 1 3)) (dmaCell c rsS 1 3) ∗ atPos ER (dmaCell c rsS 1 3) 1 ∅ 0)
        ∗ ((chunk accM (fwd c 4) 1).view.loc (c : Thread nD τ) ↦[(chunk accM (fwd c 4) 1).view.set]{fullShare} (chunk accM (fwd c 4) 1).view.rep (sent m c (fwd c 4) 1))
        ∗ (cellInv ER (sched m) (K (dmaCell c rsS 1 4)) (dmaCell c rsS 1 4) ∗ atPos ER (dmaCell c rsS 1 4) 1 ∅ 0)
        ∗ ((chunk accM (fwd c 5) 1).view.loc (c : Thread nD τ) ↦[(chunk accM (fwd c 5) 1).view.set]{fullShare} (chunk accM (fwd c 5) 1).view.rep (sent m c (fwd c 5) 1))
        ∗ (cellInv ER (sched m) (K (dmaCell c rsS 1 5)) (dmaCell c rsS 1 5) ∗ atPos ER (dmaCell c rsS 1 5) 1 ∅ 0)
        ∗ ((chunk accM (fwd c 6) 1).view.loc (c : Thread nD τ) ↦[(chunk accM (fwd c 6) 1).view.set]{fullShare} (chunk accM (fwd c 6) 1).view.rep (sent m c (fwd c 6) 1))
        ∗ (cellInv ER (sched m) (K (dmaCell c rsS 1 6)) (dmaCell c rsS 1 6) ∗ atPos ER (dmaCell c rsS 1 6) 1 ∅ 0)
        ∗ owes (c : Thread nD τ) (owedAfter c 155) (insert (SemLoc.dma (semAt (arr rsS) 1 6), ()) (insert (SemLoc.dma (semAt (arr rsS) 1 5), ()) (insert (SemLoc.dma (semAt (arr rsS) 1 4), ()) (insert (SemLoc.dma (semAt (arr rsS) 1 3), ()) (W)))))) -∗ Q r))
      ⊢ wp frame (wpE (defs₀ (F := F)) 𝒱₀ c none) Set.univ (k0_part101 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS1_3, ArsS1_3, CrsS1_3⟩, ⟨#IrsS1_4, ArsS1_4, CrsS1_4⟩, ⟨#IrsS1_5, ArsS1_5, CrsS1_5⟩, ⟨#IrsS1_6, ArsS1_6, CrsS1_6⟩, #Hlev, HO, Hk⟩
  have hmwrsS1_3 := mayWait_end (F := F) c (.dma (semAt (arr rsS) 1 3))
  have hmwrsS1_4 := mayWait_end (F := F) c (.dma (semAt (arr rsS) 1 4))
  have hmwrsS1_5 := mayWait_end (F := F) c (.dma (semAt (arr rsS) 1 5))
  have hmwrsS1_6 := mayWait_end (F := F) c (.dma (semAt (arr rsS) 1 6))
  sl_exec_parts
  sl_step
  iapply Hk
  isplitl [ArsS1_3_pay1]; · iexact ArsS1_3_pay1
  isplitl [ArsS1_3]; · (isplitr; · iexact IrsS1_3); iexact ArsS1_3
  isplitl [ArsS1_4_pay1]; · iexact ArsS1_4_pay1
  isplitl [ArsS1_4]; · (isplitr; · iexact IrsS1_4); iexact ArsS1_4
  isplitl [ArsS1_5_pay1]; · iexact ArsS1_5_pay1
  isplitl [ArsS1_5]; · (isplitr; · iexact IrsS1_5); iexact ArsS1_5
  isplitl [ArsS1_6_pay1]; · iexact ArsS1_6_pay1
  isplitl [ArsS1_6]; · (isplitr; · iexact IrsS1_6); iexact ArsS1_6
  iexact HO

attribute [local sl_rounds] duties_dma amount_dma expect_dma pay_rsS in
set_option maxHeartbeats 4000000 in
theorem part102_spec (c : Dev nD)  (W : Waits sig Unit) (Q : (PUnit) → sProp 𝕄) :
    iprop(recvRes m K rsS c 1 7
      ∗ recvRes m K rsS c 1 8
      ∗ recvRes m K rsS c 1 9
      ∗ levAts L lv
      ∗ owes (c : Thread nD τ) (owedAfter c 155) W
      ∗ (∀ r, (((chunk accM (fwd c 7) 1).view.loc (c : Thread nD τ) ↦[(chunk accM (fwd c 7) 1).view.set]{fullShare} (chunk accM (fwd c 7) 1).view.rep (sent m c (fwd c 7) 1))
        ∗ (cellInv ER (sched m) (K (dmaCell c rsS 1 7)) (dmaCell c rsS 1 7) ∗ atPos ER (dmaCell c rsS 1 7) 1 ∅ 0)
        ∗ ((chunk accM (fwd c 8) 1).view.loc (c : Thread nD τ) ↦[(chunk accM (fwd c 8) 1).view.set]{fullShare} (chunk accM (fwd c 8) 1).view.rep (sent m c (fwd c 8) 1))
        ∗ (cellInv ER (sched m) (K (dmaCell c rsS 1 8)) (dmaCell c rsS 1 8) ∗ atPos ER (dmaCell c rsS 1 8) 1 ∅ 0)
        ∗ ((chunk accM (fwd c 9) 1).view.loc (c : Thread nD τ) ↦[(chunk accM (fwd c 9) 1).view.set]{fullShare} (chunk accM (fwd c 9) 1).view.rep (sent m c (fwd c 9) 1))
        ∗ (cellInv ER (sched m) (K (dmaCell c rsS 1 9)) (dmaCell c rsS 1 9) ∗ atPos ER (dmaCell c rsS 1 9) 1 ∅ 0)
        ∗ owes (c : Thread nD τ) (owedAfter c 155) (insert (SemLoc.dma (semAt (arr rsS) 1 9), ()) (insert (SemLoc.dma (semAt (arr rsS) 1 8), ()) (insert (SemLoc.dma (semAt (arr rsS) 1 7), ()) (W))))) -∗ Q r))
      ⊢ wp frame (wpE (defs₀ (F := F)) 𝒱₀ c none) Set.univ (k0_part102 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS1_7, ArsS1_7, CrsS1_7⟩, ⟨#IrsS1_8, ArsS1_8, CrsS1_8⟩, ⟨#IrsS1_9, ArsS1_9, CrsS1_9⟩, #Hlev, HO, Hk⟩
  have hmwrsS1_7 := mayWait_end (F := F) c (.dma (semAt (arr rsS) 1 7))
  have hmwrsS1_8 := mayWait_end (F := F) c (.dma (semAt (arr rsS) 1 8))
  have hmwrsS1_9 := mayWait_end (F := F) c (.dma (semAt (arr rsS) 1 9))
  sl_exec_parts
  sl_step
  iapply Hk
  isplitl [ArsS1_7_pay1]; · iexact ArsS1_7_pay1
  isplitl [ArsS1_7]; · (isplitr; · iexact IrsS1_7); iexact ArsS1_7
  isplitl [ArsS1_8_pay1]; · iexact ArsS1_8_pay1
  isplitl [ArsS1_8]; · (isplitr; · iexact IrsS1_8); iexact ArsS1_8
  isplitl [ArsS1_9_pay1]; · iexact ArsS1_9_pay1
  isplitl [ArsS1_9]; · (isplitr; · iexact IrsS1_9); iexact ArsS1_9
  iexact HO

attribute [local sl_rounds] duties_dma amount_dma expect_dma pay_rsS in
set_option maxHeartbeats 4000000 in
theorem part103_spec (c : Dev nD)  (W : Waits sig Unit) (Q : (PUnit) → sProp 𝕄) :
    iprop(recvRes m K rsS c 1 10
      ∗ recvRes m K rsS c 1 11
      ∗ recvRes m K rsS c 1 12
      ∗ recvRes m K rsS c 1 13
      ∗ levAts L lv
      ∗ owes (c : Thread nD τ) (owedAfter c 155) W
      ∗ (∀ r, (((chunk accM (fwd c 10) 1).view.loc (c : Thread nD τ) ↦[(chunk accM (fwd c 10) 1).view.set]{fullShare} (chunk accM (fwd c 10) 1).view.rep (sent m c (fwd c 10) 1))
        ∗ (cellInv ER (sched m) (K (dmaCell c rsS 1 10)) (dmaCell c rsS 1 10) ∗ atPos ER (dmaCell c rsS 1 10) 1 ∅ 0)
        ∗ ((chunk accM (fwd c 11) 1).view.loc (c : Thread nD τ) ↦[(chunk accM (fwd c 11) 1).view.set]{fullShare} (chunk accM (fwd c 11) 1).view.rep (sent m c (fwd c 11) 1))
        ∗ (cellInv ER (sched m) (K (dmaCell c rsS 1 11)) (dmaCell c rsS 1 11) ∗ atPos ER (dmaCell c rsS 1 11) 1 ∅ 0)
        ∗ ((chunk accM (fwd c 12) 1).view.loc (c : Thread nD τ) ↦[(chunk accM (fwd c 12) 1).view.set]{fullShare} (chunk accM (fwd c 12) 1).view.rep (sent m c (fwd c 12) 1))
        ∗ (cellInv ER (sched m) (K (dmaCell c rsS 1 12)) (dmaCell c rsS 1 12) ∗ atPos ER (dmaCell c rsS 1 12) 1 ∅ 0)
        ∗ ((chunk accM (fwd c 13) 1).view.loc (c : Thread nD τ) ↦[(chunk accM (fwd c 13) 1).view.set]{fullShare} (chunk accM (fwd c 13) 1).view.rep (sent m c (fwd c 13) 1))
        ∗ (cellInv ER (sched m) (K (dmaCell c rsS 1 13)) (dmaCell c rsS 1 13) ∗ atPos ER (dmaCell c rsS 1 13) 1 ∅ 0)
        ∗ owes (c : Thread nD τ) (owedAfter c 155) (insert (SemLoc.dma (semAt (arr rsS) 1 13), ()) (insert (SemLoc.dma (semAt (arr rsS) 1 12), ()) (insert (SemLoc.dma (semAt (arr rsS) 1 11), ()) (insert (SemLoc.dma (semAt (arr rsS) 1 10), ()) (W)))))) -∗ Q r))
      ⊢ wp frame (wpE (defs₀ (F := F)) 𝒱₀ c none) Set.univ (k0_part103 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS1_10, ArsS1_10, CrsS1_10⟩, ⟨#IrsS1_11, ArsS1_11, CrsS1_11⟩, ⟨#IrsS1_12, ArsS1_12, CrsS1_12⟩, ⟨#IrsS1_13, ArsS1_13, CrsS1_13⟩, #Hlev, HO, Hk⟩
  have hmwrsS1_10 := mayWait_end (F := F) c (.dma (semAt (arr rsS) 1 10))
  have hmwrsS1_11 := mayWait_end (F := F) c (.dma (semAt (arr rsS) 1 11))
  have hmwrsS1_12 := mayWait_end (F := F) c (.dma (semAt (arr rsS) 1 12))
  have hmwrsS1_13 := mayWait_end (F := F) c (.dma (semAt (arr rsS) 1 13))
  sl_exec_parts
  sl_step
  iapply Hk
  isplitl [ArsS1_10_pay1]; · iexact ArsS1_10_pay1
  isplitl [ArsS1_10]; · (isplitr; · iexact IrsS1_10); iexact ArsS1_10
  isplitl [ArsS1_11_pay1]; · iexact ArsS1_11_pay1
  isplitl [ArsS1_11]; · (isplitr; · iexact IrsS1_11); iexact ArsS1_11
  isplitl [ArsS1_12_pay1]; · iexact ArsS1_12_pay1
  isplitl [ArsS1_12]; · (isplitr; · iexact IrsS1_12); iexact ArsS1_12
  isplitl [ArsS1_13_pay1]; · iexact ArsS1_13_pay1
  isplitl [ArsS1_13]; · (isplitr; · iexact IrsS1_13); iexact ArsS1_13
  iexact HO

attribute [local sl_rounds] duties_dma amount_dma expect_dma pay_rsS in
set_option maxHeartbeats 4000000 in
theorem part104_spec (c : Dev nD)  (W : Waits sig Unit) (Q : (PUnit) → sProp 𝕄) :
    iprop(recvRes m K rsS c 1 14
      ∗ recvRes m K rsS c 1 15
      ∗ recvRes m K rsS c 1 16
      ∗ recvRes m K rsS c 1 17
      ∗ levAts L lv
      ∗ owes (c : Thread nD τ) (owedAfter c 155) W
      ∗ (∀ r, (((chunk accM (fwd c 14) 1).view.loc (c : Thread nD τ) ↦[(chunk accM (fwd c 14) 1).view.set]{fullShare} (chunk accM (fwd c 14) 1).view.rep (sent m c (fwd c 14) 1))
        ∗ (cellInv ER (sched m) (K (dmaCell c rsS 1 14)) (dmaCell c rsS 1 14) ∗ atPos ER (dmaCell c rsS 1 14) 1 ∅ 0)
        ∗ ((chunk accM (fwd c 15) 1).view.loc (c : Thread nD τ) ↦[(chunk accM (fwd c 15) 1).view.set]{fullShare} (chunk accM (fwd c 15) 1).view.rep (sent m c (fwd c 15) 1))
        ∗ (cellInv ER (sched m) (K (dmaCell c rsS 1 15)) (dmaCell c rsS 1 15) ∗ atPos ER (dmaCell c rsS 1 15) 1 ∅ 0)
        ∗ ((chunk accM (fwd c 16) 1).view.loc (c : Thread nD τ) ↦[(chunk accM (fwd c 16) 1).view.set]{fullShare} (chunk accM (fwd c 16) 1).view.rep (sent m c (fwd c 16) 1))
        ∗ (cellInv ER (sched m) (K (dmaCell c rsS 1 16)) (dmaCell c rsS 1 16) ∗ atPos ER (dmaCell c rsS 1 16) 1 ∅ 0)
        ∗ ((chunk accM (fwd c 17) 1).view.loc (c : Thread nD τ) ↦[(chunk accM (fwd c 17) 1).view.set]{fullShare} (chunk accM (fwd c 17) 1).view.rep (sent m c (fwd c 17) 1))
        ∗ (cellInv ER (sched m) (K (dmaCell c rsS 1 17)) (dmaCell c rsS 1 17) ∗ atPos ER (dmaCell c rsS 1 17) 1 ∅ 0)
        ∗ owes (c : Thread nD τ) (owedAfter c 155) (insert (SemLoc.dma (semAt (arr rsS) 1 17), ()) (insert (SemLoc.dma (semAt (arr rsS) 1 16), ()) (insert (SemLoc.dma (semAt (arr rsS) 1 15), ()) (insert (SemLoc.dma (semAt (arr rsS) 1 14), ()) (W)))))) -∗ Q r))
      ⊢ wp frame (wpE (defs₀ (F := F)) 𝒱₀ c none) Set.univ (k0_part104 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS1_14, ArsS1_14, CrsS1_14⟩, ⟨#IrsS1_15, ArsS1_15, CrsS1_15⟩, ⟨#IrsS1_16, ArsS1_16, CrsS1_16⟩, ⟨#IrsS1_17, ArsS1_17, CrsS1_17⟩, #Hlev, HO, Hk⟩
  have hmwrsS1_14 := mayWait_end (F := F) c (.dma (semAt (arr rsS) 1 14))
  have hmwrsS1_15 := mayWait_end (F := F) c (.dma (semAt (arr rsS) 1 15))
  have hmwrsS1_16 := mayWait_end (F := F) c (.dma (semAt (arr rsS) 1 16))
  have hmwrsS1_17 := mayWait_end (F := F) c (.dma (semAt (arr rsS) 1 17))
  sl_exec_parts
  sl_step
  iapply Hk
  isplitl [ArsS1_14_pay1]; · iexact ArsS1_14_pay1
  isplitl [ArsS1_14]; · (isplitr; · iexact IrsS1_14); iexact ArsS1_14
  isplitl [ArsS1_15_pay1]; · iexact ArsS1_15_pay1
  isplitl [ArsS1_15]; · (isplitr; · iexact IrsS1_15); iexact ArsS1_15
  isplitl [ArsS1_16_pay1]; · iexact ArsS1_16_pay1
  isplitl [ArsS1_16]; · (isplitr; · iexact IrsS1_16); iexact ArsS1_16
  isplitl [ArsS1_17_pay1]; · iexact ArsS1_17_pay1
  isplitl [ArsS1_17]; · (isplitr; · iexact IrsS1_17); iexact ArsS1_17
  iexact HO

attribute [local sl_rounds] duties_dma amount_dma expect_dma pay_rsS in
set_option maxHeartbeats 4000000 in
theorem part105_spec (c : Dev nD)  (W : Waits sig Unit) (Q : (PUnit) → sProp 𝕄) :
    iprop(recvRes m K rsS c 1 18
      ∗ recvRes m K rsS c 1 19
      ∗ recvRes m K rsS c 1 20
      ∗ recvRes m K rsS c 1 21
      ∗ levAts L lv
      ∗ owes (c : Thread nD τ) (owedAfter c 155) W
      ∗ (∀ r, (((chunk accM (fwd c 18) 1).view.loc (c : Thread nD τ) ↦[(chunk accM (fwd c 18) 1).view.set]{fullShare} (chunk accM (fwd c 18) 1).view.rep (sent m c (fwd c 18) 1))
        ∗ (cellInv ER (sched m) (K (dmaCell c rsS 1 18)) (dmaCell c rsS 1 18) ∗ atPos ER (dmaCell c rsS 1 18) 1 ∅ 0)
        ∗ ((chunk accM (fwd c 19) 1).view.loc (c : Thread nD τ) ↦[(chunk accM (fwd c 19) 1).view.set]{fullShare} (chunk accM (fwd c 19) 1).view.rep (sent m c (fwd c 19) 1))
        ∗ (cellInv ER (sched m) (K (dmaCell c rsS 1 19)) (dmaCell c rsS 1 19) ∗ atPos ER (dmaCell c rsS 1 19) 1 ∅ 0)
        ∗ ((chunk accM (fwd c 20) 1).view.loc (c : Thread nD τ) ↦[(chunk accM (fwd c 20) 1).view.set]{fullShare} (chunk accM (fwd c 20) 1).view.rep (sent m c (fwd c 20) 1))
        ∗ (cellInv ER (sched m) (K (dmaCell c rsS 1 20)) (dmaCell c rsS 1 20) ∗ atPos ER (dmaCell c rsS 1 20) 1 ∅ 0)
        ∗ ((chunk accM (fwd c 21) 1).view.loc (c : Thread nD τ) ↦[(chunk accM (fwd c 21) 1).view.set]{fullShare} (chunk accM (fwd c 21) 1).view.rep (sent m c (fwd c 21) 1))
        ∗ (cellInv ER (sched m) (K (dmaCell c rsS 1 21)) (dmaCell c rsS 1 21) ∗ atPos ER (dmaCell c rsS 1 21) 1 ∅ 0)
        ∗ owes (c : Thread nD τ) (owedAfter c 155) (insert (SemLoc.dma (semAt (arr rsS) 1 21), ()) (insert (SemLoc.dma (semAt (arr rsS) 1 20), ()) (insert (SemLoc.dma (semAt (arr rsS) 1 19), ()) (insert (SemLoc.dma (semAt (arr rsS) 1 18), ()) (W)))))) -∗ Q r))
      ⊢ wp frame (wpE (defs₀ (F := F)) 𝒱₀ c none) Set.univ (k0_part105 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS1_18, ArsS1_18, CrsS1_18⟩, ⟨#IrsS1_19, ArsS1_19, CrsS1_19⟩, ⟨#IrsS1_20, ArsS1_20, CrsS1_20⟩, ⟨#IrsS1_21, ArsS1_21, CrsS1_21⟩, #Hlev, HO, Hk⟩
  have hmwrsS1_18 := mayWait_end (F := F) c (.dma (semAt (arr rsS) 1 18))
  have hmwrsS1_19 := mayWait_end (F := F) c (.dma (semAt (arr rsS) 1 19))
  have hmwrsS1_20 := mayWait_end (F := F) c (.dma (semAt (arr rsS) 1 20))
  have hmwrsS1_21 := mayWait_end (F := F) c (.dma (semAt (arr rsS) 1 21))
  sl_exec_parts
  sl_step
  iapply Hk
  isplitl [ArsS1_18_pay1]; · iexact ArsS1_18_pay1
  isplitl [ArsS1_18]; · (isplitr; · iexact IrsS1_18); iexact ArsS1_18
  isplitl [ArsS1_19_pay1]; · iexact ArsS1_19_pay1
  isplitl [ArsS1_19]; · (isplitr; · iexact IrsS1_19); iexact ArsS1_19
  isplitl [ArsS1_20_pay1]; · iexact ArsS1_20_pay1
  isplitl [ArsS1_20]; · (isplitr; · iexact IrsS1_20); iexact ArsS1_20
  isplitl [ArsS1_21_pay1]; · iexact ArsS1_21_pay1
  isplitl [ArsS1_21]; · (isplitr; · iexact IrsS1_21); iexact ArsS1_21
  iexact HO

attribute [local sl_rounds] duties_dma amount_dma expect_dma pay_rsS in
set_option maxHeartbeats 4000000 in
theorem part106_spec (c : Dev nD)  (W : Waits sig Unit) (Q : (PUnit) → sProp 𝕄) :
    iprop(recvRes m K rsS c 1 22
      ∗ recvRes m K rsS c 1 23
      ∗ recvRes m K rsS c 1 24
      ∗ levAts L lv
      ∗ owes (c : Thread nD τ) (owedAfter c 155) W
      ∗ (∀ r, (((chunk accM (fwd c 22) 1).view.loc (c : Thread nD τ) ↦[(chunk accM (fwd c 22) 1).view.set]{fullShare} (chunk accM (fwd c 22) 1).view.rep (sent m c (fwd c 22) 1))
        ∗ (cellInv ER (sched m) (K (dmaCell c rsS 1 22)) (dmaCell c rsS 1 22) ∗ atPos ER (dmaCell c rsS 1 22) 1 ∅ 0)
        ∗ ((chunk accM (fwd c 23) 1).view.loc (c : Thread nD τ) ↦[(chunk accM (fwd c 23) 1).view.set]{fullShare} (chunk accM (fwd c 23) 1).view.rep (sent m c (fwd c 23) 1))
        ∗ (cellInv ER (sched m) (K (dmaCell c rsS 1 23)) (dmaCell c rsS 1 23) ∗ atPos ER (dmaCell c rsS 1 23) 1 ∅ 0)
        ∗ ((chunk accM (fwd c 24) 1).view.loc (c : Thread nD τ) ↦[(chunk accM (fwd c 24) 1).view.set]{fullShare} (chunk accM (fwd c 24) 1).view.rep (sent m c (fwd c 24) 1))
        ∗ (cellInv ER (sched m) (K (dmaCell c rsS 1 24)) (dmaCell c rsS 1 24) ∗ atPos ER (dmaCell c rsS 1 24) 1 ∅ 0)
        ∗ owes (c : Thread nD τ) (owedAfter c 155) (insert (SemLoc.dma (semAt (arr rsS) 1 24), ()) (insert (SemLoc.dma (semAt (arr rsS) 1 23), ()) (insert (SemLoc.dma (semAt (arr rsS) 1 22), ()) (W))))) -∗ Q r))
      ⊢ wp frame (wpE (defs₀ (F := F)) 𝒱₀ c none) Set.univ (k0_part106 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS1_22, ArsS1_22, CrsS1_22⟩, ⟨#IrsS1_23, ArsS1_23, CrsS1_23⟩, ⟨#IrsS1_24, ArsS1_24, CrsS1_24⟩, #Hlev, HO, Hk⟩
  have hmwrsS1_22 := mayWait_end (F := F) c (.dma (semAt (arr rsS) 1 22))
  have hmwrsS1_23 := mayWait_end (F := F) c (.dma (semAt (arr rsS) 1 23))
  have hmwrsS1_24 := mayWait_end (F := F) c (.dma (semAt (arr rsS) 1 24))
  sl_exec_parts
  sl_step
  iapply Hk
  isplitl [ArsS1_22_pay1]; · iexact ArsS1_22_pay1
  isplitl [ArsS1_22]; · (isplitr; · iexact IrsS1_22); iexact ArsS1_22
  isplitl [ArsS1_23_pay1]; · iexact ArsS1_23_pay1
  isplitl [ArsS1_23]; · (isplitr; · iexact IrsS1_23); iexact ArsS1_23
  isplitl [ArsS1_24_pay1]; · iexact ArsS1_24_pay1
  isplitl [ArsS1_24]; · (isplitr; · iexact IrsS1_24); iexact ArsS1_24
  iexact HO

attribute [local sl_rounds] duties_dma amount_dma expect_dma pay_rsS in
set_option maxHeartbeats 4000000 in
theorem part107_spec (c : Dev nD)  (W : Waits sig Unit) (Q : (PUnit) → sProp 𝕄) :
    iprop(recvRes m K rsS c 1 25
      ∗ recvRes m K rsS c 1 26
      ∗ recvRes m K rsS c 1 27
      ∗ recvRes m K rsS c 1 28
      ∗ levAts L lv
      ∗ owes (c : Thread nD τ) (owedAfter c 155) W
      ∗ (∀ r, (((chunk accM (fwd c 25) 1).view.loc (c : Thread nD τ) ↦[(chunk accM (fwd c 25) 1).view.set]{fullShare} (chunk accM (fwd c 25) 1).view.rep (sent m c (fwd c 25) 1))
        ∗ (cellInv ER (sched m) (K (dmaCell c rsS 1 25)) (dmaCell c rsS 1 25) ∗ atPos ER (dmaCell c rsS 1 25) 1 ∅ 0)
        ∗ ((chunk accM (fwd c 26) 1).view.loc (c : Thread nD τ) ↦[(chunk accM (fwd c 26) 1).view.set]{fullShare} (chunk accM (fwd c 26) 1).view.rep (sent m c (fwd c 26) 1))
        ∗ (cellInv ER (sched m) (K (dmaCell c rsS 1 26)) (dmaCell c rsS 1 26) ∗ atPos ER (dmaCell c rsS 1 26) 1 ∅ 0)
        ∗ ((chunk accM (fwd c 27) 1).view.loc (c : Thread nD τ) ↦[(chunk accM (fwd c 27) 1).view.set]{fullShare} (chunk accM (fwd c 27) 1).view.rep (sent m c (fwd c 27) 1))
        ∗ (cellInv ER (sched m) (K (dmaCell c rsS 1 27)) (dmaCell c rsS 1 27) ∗ atPos ER (dmaCell c rsS 1 27) 1 ∅ 0)
        ∗ ((chunk accM (fwd c 28) 1).view.loc (c : Thread nD τ) ↦[(chunk accM (fwd c 28) 1).view.set]{fullShare} (chunk accM (fwd c 28) 1).view.rep (sent m c (fwd c 28) 1))
        ∗ (cellInv ER (sched m) (K (dmaCell c rsS 1 28)) (dmaCell c rsS 1 28) ∗ atPos ER (dmaCell c rsS 1 28) 1 ∅ 0)
        ∗ owes (c : Thread nD τ) (owedAfter c 155) (insert (SemLoc.dma (semAt (arr rsS) 1 28), ()) (insert (SemLoc.dma (semAt (arr rsS) 1 27), ()) (insert (SemLoc.dma (semAt (arr rsS) 1 26), ()) (insert (SemLoc.dma (semAt (arr rsS) 1 25), ()) (W)))))) -∗ Q r))
      ⊢ wp frame (wpE (defs₀ (F := F)) 𝒱₀ c none) Set.univ (k0_part107 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IrsS1_25, ArsS1_25, CrsS1_25⟩, ⟨#IrsS1_26, ArsS1_26, CrsS1_26⟩, ⟨#IrsS1_27, ArsS1_27, CrsS1_27⟩, ⟨#IrsS1_28, ArsS1_28, CrsS1_28⟩, #Hlev, HO, Hk⟩
  have hmwrsS1_25 := mayWait_end (F := F) c (.dma (semAt (arr rsS) 1 25))
  have hmwrsS1_26 := mayWait_end (F := F) c (.dma (semAt (arr rsS) 1 26))
  have hmwrsS1_27 := mayWait_end (F := F) c (.dma (semAt (arr rsS) 1 27))
  have hmwrsS1_28 := mayWait_end (F := F) c (.dma (semAt (arr rsS) 1 28))
  sl_exec_parts
  sl_step
  iapply Hk
  isplitl [ArsS1_25_pay1]; · iexact ArsS1_25_pay1
  isplitl [ArsS1_25]; · (isplitr; · iexact IrsS1_25); iexact ArsS1_25
  isplitl [ArsS1_26_pay1]; · iexact ArsS1_26_pay1
  isplitl [ArsS1_26]; · (isplitr; · iexact IrsS1_26); iexact ArsS1_26
  isplitl [ArsS1_27_pay1]; · iexact ArsS1_27_pay1
  isplitl [ArsS1_27]; · (isplitr; · iexact IrsS1_27); iexact ArsS1_27
  isplitl [ArsS1_28_pay1]; · iexact ArsS1_28_pay1
  isplitl [ArsS1_28]; · (isplitr; · iexact IrsS1_28); iexact ArsS1_28
  iexact HO

attribute [local sl_rounds] duties_dma amount_dma expect_dma pay_rsS in
set_option maxHeartbeats 4000000 in
theorem part108_spec (c : Dev nD) (v2 : BitVec 32) (W : Waits sig Unit) (Q : (PUnit) → sProp 𝕄) :
    iprop(recvRes m K rsS c 1 29
      ∗ recvRes m K rsS c 1 30
      ∗ recvRes m K rsS c 1 31
      ∗ levAts L lv
      ∗ owes (c : Thread nD τ) (owedAfter c 155) W
      ∗ (∀ r, (((chunk accM (fwd c 29) 1).view.loc (c : Thread nD τ) ↦[(chunk accM (fwd c 29) 1).view.set]{fullShare} (chunk accM (fwd c 29) 1).view.rep (sent m c (fwd c 29) 1))
        ∗ (cellInv ER (sched m) (K (dmaCell c rsS 1 29)) (dmaCell c rsS 1 29) ∗ atPos ER (dmaCell c rsS 1 29) 1 ∅ 0)
        ∗ ((chunk accM (fwd c 30) 1).view.loc (c : Thread nD τ) ↦[(chunk accM (fwd c 30) 1).view.set]{fullShare} (chunk accM (fwd c 30) 1).view.rep (sent m c (fwd c 30) 1))
        ∗ (cellInv ER (sched m) (K (dmaCell c rsS 1 30)) (dmaCell c rsS 1 30) ∗ atPos ER (dmaCell c rsS 1 30) 1 ∅ 0)
        ∗ ((chunk accM (fwd c 31) 1).view.loc (c : Thread nD τ) ↦[(chunk accM (fwd c 31) 1).view.set]{fullShare} (chunk accM (fwd c 31) 1).view.rep (sent m c (fwd c 31) 1))
        ∗ (cellInv ER (sched m) (K (dmaCell c rsS 1 31)) (dmaCell c rsS 1 31) ∗ atPos ER (dmaCell c rsS 1 31) 1 ∅ 0)
        ∗ owes (c : Thread nD τ) (owedAfter c 155) (insert (SemLoc.dma (semAt (arr rsS) 1 31), ()) (insert (SemLoc.dma (semAt (arr rsS) 1 30), ()) (insert (SemLoc.dma (semAt (arr rsS) 1 29), ()) (W))))) -∗ Q r))
      ⊢ wp frame (wpE (defs₀ (F := F)) 𝒱₀ c none) Set.univ (k0_part108 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold recvRes
  iintro ⟨⟨#IrsS1_29, ArsS1_29, CrsS1_29⟩, ⟨#IrsS1_30, ArsS1_30, CrsS1_30⟩, ⟨#IrsS1_31, ArsS1_31, CrsS1_31⟩, #Hlev, HO, Hk⟩
  have hmwrsS1_29 := mayWait_end (F := F) c (.dma (semAt (arr rsS) 1 29))
  have hmwrsS1_30 := mayWait_end (F := F) c (.dma (semAt (arr rsS) 1 30))
  have hmwrsS1_31 := mayWait_end (F := F) c (.dma (semAt (arr rsS) 1 31))
  sl_exec_parts
  sl_step
  iapply Hk
  isplitl [ArsS1_29_pay1]; · iexact ArsS1_29_pay1
  isplitl [ArsS1_29]; · (isplitr; · iexact IrsS1_29); iexact ArsS1_29
  isplitl [ArsS1_30_pay1]; · iexact ArsS1_30_pay1
  isplitl [ArsS1_30]; · (isplitr; · iexact IrsS1_30); iexact ArsS1_30
  isplitl [ArsS1_31_pay1]; · iexact ArsS1_31_pay1
  isplitl [ArsS1_31]; · (isplitr; · iexact IrsS1_31); iexact ArsS1_31
  iexact HO

end Cert.Kernel.AllReduce

end
-- ==== Proof.Word.BodyWaitsD.lean ====
/-
  The receive waits of the gather phase: each hands the device the finished rows of one peer.
  One statement per printed part of the kernel body, over the resources that part touches and nothing else.
-/
import proofs.«900438_g7700000000000439_dist_gemm_ar_m1024_k1024_n1024_f32_gelu_v7x_i32_1_alg».proof.Proof.Word.BodyTables
noncomputable section
namespace Cert.Kernel.AllReduce
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_agR in
set_option maxHeartbeats 4000000 in
theorem part109_spec (c : Dev nD) (v2 : BitVec 32) (W : Waits sig Unit) (Q : (Σ' (v2718 : BitVec 32), BitVec 32) → sProp 𝕄) :
    iprop(recvRes m K agR c 0 1
      ∗ recvRes m K agR c 0 2
      ∗ recvRes m K agR c 0 3
      ∗ levAts L lv
      ∗ owes (c : Thread nD τ) (owedAfter c 155) W
      ∗ (∀ r, (((chunk outM (bwd c 1) 0).view.loc (c : Thread nD τ) ↦[(chunk outM (bwd c 1) 0).view.set]{fullShare} (chunk outM (bwd c 1) 0).view.rep (reduced m (bwd c 1) 0))
        ∗ (cellInv ER (sched m) (K (dmaCell c agR 0 1)) (dmaCell c agR 0 1) ∗ atPos ER (dmaCell c agR 0 1) 1 ∅ 0)
        ∗ ((chunk outM (bwd c 2) 0).view.loc (c : Thread nD τ) ↦[(chunk outM (bwd c 2) 0).view.set]{fullShare} (chunk outM (bwd c 2) 0).view.rep (reduced m (bwd c 2) 0))
        ∗ (cellInv ER (sched m) (K (dmaCell c agR 0 2)) (dmaCell c agR 0 2) ∗ atPos ER (dmaCell c agR 0 2) 1 ∅ 0)
        ∗ ((chunk outM (bwd c 3) 0).view.loc (c : Thread nD τ) ↦[(chunk outM (bwd c 3) 0).view.set]{fullShare} (chunk outM (bwd c 3) 0).view.rep (reduced m (bwd c 3) 0))
        ∗ (cellInv ER (sched m) (K (dmaCell c agR 0 3)) (dmaCell c agR 0 3) ∗ atPos ER (dmaCell c agR 0 3) 1 ∅ 0)
        ∗ owes (c : Thread nD τ) (owedAfter c 155) (insert (SemLoc.dma (semAt (arr agR) 0 3), ()) (insert (SemLoc.dma (semAt (arr agR) 0 2), ()) (insert (SemLoc.dma (semAt (arr agR) 0 1), ()) (W))))) -∗ Q r))
      ⊢ wp frame (wpE (defs₀ (F := F)) 𝒱₀ c none) Set.univ (k0_part109 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold recvRes
  iintro ⟨⟨#IagR0_1, AagR0_1, CagR0_1⟩, ⟨#IagR0_2, AagR0_2, CagR0_2⟩, ⟨#IagR0_3, AagR0_3, CagR0_3⟩, #Hlev, HO, Hk⟩
  have hmwagR0_1 := mayWait_end (F := F) c (.dma (semAt (arr agR) 0 1))
  have hmwagR0_2 := mayWait_end (F := F) c (.dma (semAt (arr agR) 0 2))
  have hmwagR0_3 := mayWait_end (F := F) c (.dma (semAt (arr agR) 0 3))
  sl_exec_parts
  sl_step
  iapply Hk
  isplitl [AagR0_1_pay1]; · iexact AagR0_1_pay1
  isplitl [AagR0_1]; · (isplitr; · iexact IagR0_1); iexact AagR0_1
  isplitl [AagR0_2_pay1]; · iexact AagR0_2_pay1
  isplitl [AagR0_2]; · (isplitr; · iexact IagR0_2); iexact AagR0_2
  isplitl [AagR0_3_pay1]; · iexact AagR0_3_pay1
  isplitl [AagR0_3]; · (isplitr; · iexact IagR0_3); iexact AagR0_3
  iexact HO

attribute [local sl_rounds] duties_dma amount_dma expect_dma pay_agR in
set_option maxHeartbeats 4000000 in
theorem part110_spec (c : Dev nD) (v2 : BitVec 32) (v2718 : BitVec 32) (c32_i32_3491 : BitVec 32) (W : Waits sig Unit) (Q : (Σ' (v2741 : BitVec 32), BitVec 32) → sProp 𝕄) :
    iprop(recvRes m K agR c 0 4
      ∗ recvRes m K agR c 0 5
      ∗ levAts L lv
      ∗ owes (c : Thread nD τ) (owedAfter c 155) W
      ∗ (∀ r, (((chunk outM (bwd c 4) 0).view.loc (c : Thread nD τ) ↦[(chunk outM (bwd c 4) 0).view.set]{fullShare} (chunk outM (bwd c 4) 0).view.rep (reduced m (bwd c 4) 0))
        ∗ (cellInv ER (sched m) (K (dmaCell c agR 0 4)) (dmaCell c agR 0 4) ∗ atPos ER (dmaCell c agR 0 4) 1 ∅ 0)
        ∗ ((chunk outM (bwd c 5) 0).view.loc (c : Thread nD τ) ↦[(chunk outM (bwd c 5) 0).view.set]{fullShare} (chunk outM (bwd c 5) 0).view.rep (reduced m (bwd c 5) 0))
        ∗ (cellInv ER (sched m) (K (dmaCell c agR 0 5)) (dmaCell c agR 0 5) ∗ atPos ER (dmaCell c agR 0 5) 1 ∅ 0)
        ∗ owes (c : Thread nD τ) (owedAfter c 155) (insert (SemLoc.dma (semAt (arr agR) 0 5), ()) (insert (SemLoc.dma (semAt (arr agR) 0 4), ()) (W)))) -∗ Q r))
      ⊢ wp frame (wpE (defs₀ (F := F)) 𝒱₀ c none) Set.univ (k0_part110 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2718 c32_i32_3491) Q := by
  unfold recvRes
  iintro ⟨⟨#IagR0_4, AagR0_4, CagR0_4⟩, ⟨#IagR0_5, AagR0_5, CagR0_5⟩, #Hlev, HO, Hk⟩
  have hmwagR0_4 := mayWait_end (F := F) c (.dma (semAt (arr agR) 0 4))
  have hmwagR0_5 := mayWait_end (F := F) c (.dma (semAt (arr agR) 0 5))
  sl_exec_parts
  sl_step
  iapply Hk
  isplitl [AagR0_4_pay1]; · iexact AagR0_4_pay1
  isplitl [AagR0_4]; · (isplitr; · iexact IagR0_4); iexact AagR0_4
  isplitl [AagR0_5_pay1]; · iexact AagR0_5_pay1
  isplitl [AagR0_5]; · (isplitr; · iexact IagR0_5); iexact AagR0_5
  iexact HO

attribute [local sl_rounds] duties_dma amount_dma expect_dma pay_agR in
set_option maxHeartbeats 4000000 in
theorem part111_spec (c : Dev nD) (v2 : BitVec 32) (v2741 : BitVec 32) (c1_i32_3524 : BitVec 32) (W : Waits sig Unit) (Q : (PUnit) → sProp 𝕄) :
    iprop(recvRes m K agR c 0 6
      ∗ recvRes m K agR c 0 7
      ∗ recvRes m K agR c 0 8
      ∗ levAts L lv
      ∗ owes (c : Thread nD τ) (owedAfter c 155) W
      ∗ (∀ r, (((chunk outM (bwd c 6) 0).view.loc (c : Thread nD τ) ↦[(chunk outM (bwd c 6) 0).view.set]{fullShare} (chunk outM (bwd c 6) 0).view.rep (reduced m (bwd c 6) 0))
        ∗ (cellInv ER (sched m) (K (dmaCell c agR 0 6)) (dmaCell c agR 0 6) ∗ atPos ER (dmaCell c agR 0 6) 1 ∅ 0)
        ∗ ((chunk outM (bwd c 7) 0).view.loc (c : Thread nD τ) ↦[(chunk outM (bwd c 7) 0).view.set]{fullShare} (chunk outM (bwd c 7) 0).view.rep (reduced m (bwd c 7) 0))
        ∗ (cellInv ER (sched m) (K (dmaCell c agR 0 7)) (dmaCell c agR 0 7) ∗ atPos ER (dmaCell c agR 0 7) 1 ∅ 0)
        ∗ ((chunk outM (bwd c 8) 0).view.loc (c : Thread nD τ) ↦[(chunk outM (bwd c 8) 0).view.set]{fullShare} (chunk outM (bwd c 8) 0).view.rep (reduced m (bwd c 8) 0))
        ∗ (cellInv ER (sched m) (K (dmaCell c agR 0 8)) (dmaCell c agR 0 8) ∗ atPos ER (dmaCell c agR 0 8) 1 ∅ 0)
        ∗ owes (c : Thread nD τ) (owedAfter c 155) (insert (SemLoc.dma (semAt (arr agR) 0 8), ()) (insert (SemLoc.dma (semAt (arr agR) 0 7), ()) (insert (SemLoc.dma (semAt (arr agR) 0 6), ()) (W))))) -∗ Q r))
      ⊢ wp frame (wpE (defs₀ (F := F)) 𝒱₀ c none) Set.univ (k0_part111 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2741 c1_i32_3524) Q := by
  unfold recvRes
  iintro ⟨⟨#IagR0_6, AagR0_6, CagR0_6⟩, ⟨#IagR0_7, AagR0_7, CagR0_7⟩, ⟨#IagR0_8, AagR0_8, CagR0_8⟩, #Hlev, HO, Hk⟩
  have hmwagR0_6 := mayWait_end (F := F) c (.dma (semAt (arr agR) 0 6))
  have hmwagR0_7 := mayWait_end (F := F) c (.dma (semAt (arr agR) 0 7))
  have hmwagR0_8 := mayWait_end (F := F) c (.dma (semAt (arr agR) 0 8))
  sl_exec_parts
  sl_step
  iapply Hk
  isplitl [AagR0_6_pay1]; · iexact AagR0_6_pay1
  isplitl [AagR0_6]; · (isplitr; · iexact IagR0_6); iexact AagR0_6
  isplitl [AagR0_7_pay1]; · iexact AagR0_7_pay1
  isplitl [AagR0_7]; · (isplitr; · iexact IagR0_7); iexact AagR0_7
  isplitl [AagR0_8_pay1]; · iexact AagR0_8_pay1
  isplitl [AagR0_8]; · (isplitr; · iexact IagR0_8); iexact AagR0_8
  iexact HO

attribute [local sl_rounds] duties_dma amount_dma expect_dma pay_agR in
set_option maxHeartbeats 4000000 in
theorem part112_spec (c : Dev nD) (v2 : BitVec 32) (W : Waits sig Unit) (Q : (BitVec 32) → sProp 𝕄) :
    iprop(recvRes m K agR c 0 9
      ∗ recvRes m K agR c 0 10
      ∗ levAts L lv
      ∗ owes (c : Thread nD τ) (owedAfter c 155) W
      ∗ (∀ r, (((chunk outM (bwd c 9) 0).view.loc (c : Thread nD τ) ↦[(chunk outM (bwd c 9) 0).view.set]{fullShare} (chunk outM (bwd c 9) 0).view.rep (reduced m (bwd c 9) 0))
        ∗ (cellInv ER (sched m) (K (dmaCell c agR 0 9)) (dmaCell c agR 0 9) ∗ atPos ER (dmaCell c agR 0 9) 1 ∅ 0)
        ∗ ((chunk outM (bwd c 10) 0).view.loc (c : Thread nD τ) ↦[(chunk outM (bwd c 10) 0).view.set]{fullShare} (chunk outM (bwd c 10) 0).view.rep (reduced m (bwd c 10) 0))
        ∗ (cellInv ER (sched m) (K (dmaCell c agR 0 10)) (dmaCell c agR 0 10) ∗ atPos ER (dmaCell c agR 0 10) 1 ∅ 0)
        ∗ owes (c : Thread nD τ) (owedAfter c 155) (insert (SemLoc.dma (semAt (arr agR) 0 10), ()) (insert (SemLoc.dma (semAt (arr agR) 0 9), ()) (W)))) -∗ Q r))
      ⊢ wp frame (wpE (defs₀ (F := F)) 𝒱₀ c none) Set.univ (k0_part112 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold recvRes
  iintro ⟨⟨#IagR0_9, AagR0_9, CagR0_9⟩, ⟨#IagR0_10, AagR0_10, CagR0_10⟩, #Hlev, HO, Hk⟩
  have hmwagR0_9 := mayWait_end (F := F) c (.dma (semAt (arr agR) 0 9))
  have hmwagR0_10 := mayWait_end (F := F) c (.dma (semAt (arr agR) 0 10))
  sl_exec_parts
  sl_step
  iapply Hk
  isplitl [AagR0_9_pay1]; · iexact AagR0_9_pay1
  isplitl [AagR0_9]; · (isplitr; · iexact IagR0_9); iexact AagR0_9
  isplitl [AagR0_10_pay1]; · iexact AagR0_10_pay1
  isplitl [AagR0_10]; · (isplitr; · iexact IagR0_10); iexact AagR0_10
  iexact HO

attribute [local sl_rounds] duties_dma amount_dma expect_dma pay_agR in
set_option maxHeartbeats 4000000 in
theorem part113_spec (c : Dev nD) (v2 : BitVec 32) (v2796 : BitVec 32) (W : Waits sig Unit) (Q : (PUnit) → sProp 𝕄) :
    iprop(recvRes m K agR c 0 11
      ∗ recvRes m K agR c 0 12
      ∗ levAts L lv
      ∗ owes (c : Thread nD τ) (owedAfter c 155) W
      ∗ (∀ r, (((chunk outM (bwd c 11) 0).view.loc (c : Thread nD τ) ↦[(chunk outM (bwd c 11) 0).view.set]{fullShare} (chunk outM (bwd c 11) 0).view.rep (reduced m (bwd c 11) 0))
        ∗ (cellInv ER (sched m) (K (dmaCell c agR 0 11)) (dmaCell c agR 0 11) ∗ atPos ER (dmaCell c agR 0 11) 1 ∅ 0)
        ∗ ((chunk outM (bwd c 12) 0).view.loc (c : Thread nD τ) ↦[(chunk outM (bwd c 12) 0).view.set]{fullShare} (chunk outM (bwd c 12) 0).view.rep (reduced m (bwd c 12) 0))
        ∗ (cellInv ER (sched m) (K (dmaCell c agR 0 12)) (dmaCell c agR 0 12) ∗ atPos ER (dmaCell c agR 0 12) 1 ∅ 0)
        ∗ owes (c : Thread nD τ) (owedAfter c 155) (insert (SemLoc.dma (semAt (arr agR) 0 12), ()) (insert (SemLoc.dma (semAt (arr agR) 0 11), ()) (W)))) -∗ Q r))
      ⊢ wp frame (wpE (defs₀ (F := F)) 𝒱₀ c none) Set.univ (k0_part113 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2796) Q := by
  unfold recvRes
  iintro ⟨⟨#IagR0_11, AagR0_11, CagR0_11⟩, ⟨#IagR0_12, AagR0_12, CagR0_12⟩, #Hlev, HO, Hk⟩
  have hmwagR0_11 := mayWait_end (F := F) c (.dma (semAt (arr agR) 0 11))
  have hmwagR0_12 := mayWait_end (F := F) c (.dma (semAt (arr agR) 0 12))
  sl_exec_parts
  sl_step
  iapply Hk
  isplitl [AagR0_11_pay1]; · iexact AagR0_11_pay1
  isplitl [AagR0_11]; · (isplitr; · iexact IagR0_11); iexact AagR0_11
  isplitl [AagR0_12_pay1]; · iexact AagR0_12_pay1
  isplitl [AagR0_12]; · (isplitr; · iexact IagR0_12); iexact AagR0_12
  iexact HO

attribute [local sl_rounds] duties_dma amount_dma expect_dma pay_agR in
set_option maxHeartbeats 4000000 in
theorem part114_spec (c : Dev nD) (v2 : BitVec 32) (W : Waits sig Unit) (Q : (Σ' (v2850 : BitVec 32), BitVec 32) → sProp 𝕄) :
    iprop(recvRes m K agR c 0 13
      ∗ recvRes m K agR c 0 14
      ∗ recvRes m K agR c 0 15
      ∗ levAts L lv
      ∗ owes (c : Thread nD τ) (owedAfter c 155) W
      ∗ (∀ r, (((chunk outM (bwd c 13) 0).view.loc (c : Thread nD τ) ↦[(chunk outM (bwd c 13) 0).view.set]{fullShare} (chunk outM (bwd c 13) 0).view.rep (reduced m (bwd c 13) 0))
        ∗ (cellInv ER (sched m) (K (dmaCell c agR 0 13)) (dmaCell c agR 0 13) ∗ atPos ER (dmaCell c agR 0 13) 1 ∅ 0)
        ∗ ((chunk outM (bwd c 14) 0).view.loc (c : Thread nD τ) ↦[(chunk outM (bwd c 14) 0).view.set]{fullShare} (chunk outM (bwd c 14) 0).view.rep (reduced m (bwd c 14) 0))
        ∗ (cellInv ER (sched m) (K (dmaCell c agR 0 14)) (dmaCell c agR 0 14) ∗ atPos ER (dmaCell c agR 0 14) 1 ∅ 0)
        ∗ ((chunk outM (bwd c 15) 0).view.loc (c : Thread nD τ) ↦[(chunk outM (bwd c 15) 0).view.set]{fullShare} (chunk outM (bwd c 15) 0).view.rep (reduced m (bwd c 15) 0))
        ∗ (cellInv ER (sched m) (K (dmaCell c agR 0 15)) (dmaCell c agR 0 15) ∗ atPos ER (dmaCell c agR 0 15) 1 ∅ 0)
        ∗ owes (c : Thread nD τ) (owedAfter c 155) (insert (SemLoc.dma (semAt (arr agR) 0 15), ()) (insert (SemLoc.dma (semAt (arr agR) 0 14), ()) (insert (SemLoc.dma (semAt (arr agR) 0 13), ()) (W))))) -∗ Q r))
      ⊢ wp frame (wpE (defs₀ (F := F)) 𝒱₀ c none) Set.univ (k0_part114 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold recvRes
  iintro ⟨⟨#IagR0_13, AagR0_13, CagR0_13⟩, ⟨#IagR0_14, AagR0_14, CagR0_14⟩, ⟨#IagR0_15, AagR0_15, CagR0_15⟩, #Hlev, HO, Hk⟩
  have hmwagR0_13 := mayWait_end (F := F) c (.dma (semAt (arr agR) 0 13))
  have hmwagR0_14 := mayWait_end (F := F) c (.dma (semAt (arr agR) 0 14))
  have hmwagR0_15 := mayWait_end (F := F) c (.dma (semAt (arr agR) 0 15))
  sl_exec_parts
  sl_step
  iapply Hk
  isplitl [AagR0_13_pay1]; · iexact AagR0_13_pay1
  isplitl [AagR0_13]; · (isplitr; · iexact IagR0_13); iexact AagR0_13
  isplitl [AagR0_14_pay1]; · iexact AagR0_14_pay1
  isplitl [AagR0_14]; · (isplitr; · iexact IagR0_14); iexact AagR0_14
  isplitl [AagR0_15_pay1]; · iexact AagR0_15_pay1
  isplitl [AagR0_15]; · (isplitr; · iexact IagR0_15); iexact AagR0_15
  iexact HO

attribute [local sl_rounds] duties_dma amount_dma expect_dma pay_agR in
set_option maxHeartbeats 4000000 in
theorem part115_spec (c : Dev nD) (v2 : BitVec 32) (v2850 : BitVec 32) (c32_i32_3647 : BitVec 32) (W : Waits sig Unit) (Q : (Σ' (v2873 : BitVec 32), BitVec 32) → sProp 𝕄) :
    iprop(recvRes m K agR c 0 16
      ∗ recvRes m K agR c 0 17
      ∗ levAts L lv
      ∗ owes (c : Thread nD τ) (owedAfter c 155) W
      ∗ (∀ r, (((chunk outM (bwd c 16) 0).view.loc (c : Thread nD τ) ↦[(chunk outM (bwd c 16) 0).view.set]{fullShare} (chunk outM (bwd c 16) 0).view.rep (reduced m (bwd c 16) 0))
        ∗ (cellInv ER (sched m) (K (dmaCell c agR 0 16)) (dmaCell c agR 0 16) ∗ atPos ER (dmaCell c agR 0 16) 1 ∅ 0)
        ∗ ((chunk outM (bwd c 17) 0).view.loc (c : Thread nD τ) ↦[(chunk outM (bwd c 17) 0).view.set]{fullShare} (chunk outM (bwd c 17) 0).view.rep (reduced m (bwd c 17) 0))
        ∗ (cellInv ER (sched m) (K (dmaCell c agR 0 17)) (dmaCell c agR 0 17) ∗ atPos ER (dmaCell c agR 0 17) 1 ∅ 0)
        ∗ owes (c : Thread nD τ) (owedAfter c 155) (insert (SemLoc.dma (semAt (arr agR) 0 17), ()) (insert (SemLoc.dma (semAt (arr agR) 0 16), ()) (W)))) -∗ Q r))
      ⊢ wp frame (wpE (defs₀ (F := F)) 𝒱₀ c none) Set.univ (k0_part115 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2850 c32_i32_3647) Q := by
  unfold recvRes
  iintro ⟨⟨#IagR0_16, AagR0_16, CagR0_16⟩, ⟨#IagR0_17, AagR0_17, CagR0_17⟩, #Hlev, HO, Hk⟩
  have hmwagR0_16 := mayWait_end (F := F) c (.dma (semAt (arr agR) 0 16))
  have hmwagR0_17 := mayWait_end (F := F) c (.dma (semAt (arr agR) 0 17))
  sl_exec_parts
  sl_step
  iapply Hk
  isplitl [AagR0_16_pay1]; · iexact AagR0_16_pay1
  isplitl [AagR0_16]; · (isplitr; · iexact IagR0_16); iexact AagR0_16
  isplitl [AagR0_17_pay1]; · iexact AagR0_17_pay1
  isplitl [AagR0_17]; · (isplitr; · iexact IagR0_17); iexact AagR0_17
  iexact HO

attribute [local sl_rounds] duties_dma amount_dma expect_dma pay_agR in
set_option maxHeartbeats 4000000 in
theorem part116_spec (c : Dev nD) (v2 : BitVec 32) (v2873 : BitVec 32) (c1_i32_3680 : BitVec 32) (W : Waits sig Unit) (Q : (PUnit) → sProp 𝕄) :
    iprop(recvRes m K agR c 0 18
      ∗ recvRes m K agR c 0 19
      ∗ recvRes m K agR c 0 20
      ∗ levAts L lv
      ∗ owes (c : Thread nD τ) (owedAfter c 155) W
      ∗ (∀ r, (((chunk outM (bwd c 18) 0).view.loc (c : Thread nD τ) ↦[(chunk outM (bwd c 18) 0).view.set]{fullShare} (chunk outM (bwd c 18) 0).view.rep (reduced m (bwd c 18) 0))
        ∗ (cellInv ER (sched m) (K (dmaCell c agR 0 18)) (dmaCell c agR 0 18) ∗ atPos ER (dmaCell c agR 0 18) 1 ∅ 0)
        ∗ ((chunk outM (bwd c 19) 0).view.loc (c : Thread nD τ) ↦[(chunk outM (bwd c 19) 0).view.set]{fullShare} (chunk outM (bwd c 19) 0).view.rep (reduced m (bwd c 19) 0))
        ∗ (cellInv ER (sched m) (K (dmaCell c agR 0 19)) (dmaCell c agR 0 19) ∗ atPos ER (dmaCell c agR 0 19) 1 ∅ 0)
        ∗ ((chunk outM (bwd c 20) 0).view.loc (c : Thread nD τ) ↦[(chunk outM (bwd c 20) 0).view.set]{fullShare} (chunk outM (bwd c 20) 0).view.rep (reduced m (bwd c 20) 0))
        ∗ (cellInv ER (sched m) (K (dmaCell c agR 0 20)) (dmaCell c agR 0 20) ∗ atPos ER (dmaCell c agR 0 20) 1 ∅ 0)
        ∗ owes (c : Thread nD τ) (owedAfter c 155) (insert (SemLoc.dma (semAt (arr agR) 0 20), ()) (insert (SemLoc.dma (semAt (arr agR) 0 19), ()) (insert (SemLoc.dma (semAt (arr agR) 0 18), ()) (W))))) -∗ Q r))
      ⊢ wp frame (wpE (defs₀ (F := F)) 𝒱₀ c none) Set.univ (k0_part116 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2873 c1_i32_3680) Q := by
  unfold recvRes
  iintro ⟨⟨#IagR0_18, AagR0_18, CagR0_18⟩, ⟨#IagR0_19, AagR0_19, CagR0_19⟩, ⟨#IagR0_20, AagR0_20, CagR0_20⟩, #Hlev, HO, Hk⟩
  have hmwagR0_18 := mayWait_end (F := F) c (.dma (semAt (arr agR) 0 18))
  have hmwagR0_19 := mayWait_end (F := F) c (.dma (semAt (arr agR) 0 19))
  have hmwagR0_20 := mayWait_end (F := F) c (.dma (semAt (arr agR) 0 20))
  sl_exec_parts
  sl_step
  iapply Hk
  isplitl [AagR0_18_pay1]; · iexact AagR0_18_pay1
  isplitl [AagR0_18]; · (isplitr; · iexact IagR0_18); iexact AagR0_18
  isplitl [AagR0_19_pay1]; · iexact AagR0_19_pay1
  isplitl [AagR0_19]; · (isplitr; · iexact IagR0_19); iexact AagR0_19
  isplitl [AagR0_20_pay1]; · iexact AagR0_20_pay1
  isplitl [AagR0_20]; · (isplitr; · iexact IagR0_20); iexact AagR0_20
  iexact HO

attribute [local sl_rounds] duties_dma amount_dma expect_dma pay_agR in
set_option maxHeartbeats 4000000 in
theorem part117_spec (c : Dev nD) (v2 : BitVec 32) (W : Waits sig Unit) (Q : (BitVec 32) → sProp 𝕄) :
    iprop(recvRes m K agR c 0 21
      ∗ recvRes m K agR c 0 22
      ∗ levAts L lv
      ∗ owes (c : Thread nD τ) (owedAfter c 155) W
      ∗ (∀ r, (((chunk outM (bwd c 21) 0).view.loc (c : Thread nD τ) ↦[(chunk outM (bwd c 21) 0).view.set]{fullShare} (chunk outM (bwd c 21) 0).view.rep (reduced m (bwd c 21) 0))
        ∗ (cellInv ER (sched m) (K (dmaCell c agR 0 21)) (dmaCell c agR 0 21) ∗ atPos ER (dmaCell c agR 0 21) 1 ∅ 0)
        ∗ ((chunk outM (bwd c 22) 0).view.loc (c : Thread nD τ) ↦[(chunk outM (bwd c 22) 0).view.set]{fullShare} (chunk outM (bwd c 22) 0).view.rep (reduced m (bwd c 22) 0))
        ∗ (cellInv ER (sched m) (K (dmaCell c agR 0 22)) (dmaCell c agR 0 22) ∗ atPos ER (dmaCell c agR 0 22) 1 ∅ 0)
        ∗ owes (c : Thread nD τ) (owedAfter c 155) (insert (SemLoc.dma (semAt (arr agR) 0 22), ()) (insert (SemLoc.dma (semAt (arr agR) 0 21), ()) (W)))) -∗ Q r))
      ⊢ wp frame (wpE (defs₀ (F := F)) 𝒱₀ c none) Set.univ (k0_part117 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold recvRes
  iintro ⟨⟨#IagR0_21, AagR0_21, CagR0_21⟩, ⟨#IagR0_22, AagR0_22, CagR0_22⟩, #Hlev, HO, Hk⟩
  have hmwagR0_21 := mayWait_end (F := F) c (.dma (semAt (arr agR) 0 21))
  have hmwagR0_22 := mayWait_end (F := F) c (.dma (semAt (arr agR) 0 22))
  sl_exec_parts
  sl_step
  iapply Hk
  isplitl [AagR0_21_pay1]; · iexact AagR0_21_pay1
  isplitl [AagR0_21]; · (isplitr; · iexact IagR0_21); iexact AagR0_21
  isplitl [AagR0_22_pay1]; · iexact AagR0_22_pay1
  isplitl [AagR0_22]; · (isplitr; · iexact IagR0_22); iexact AagR0_22
  iexact HO

attribute [local sl_rounds] duties_dma amount_dma expect_dma pay_agR in
set_option maxHeartbeats 4000000 in
theorem part118_spec (c : Dev nD) (v2 : BitVec 32) (v2928 : BitVec 32) (W : Waits sig Unit) (Q : (PUnit) → sProp 𝕄) :
    iprop(recvRes m K agR c 0 23
      ∗ recvRes m K agR c 0 24
      ∗ levAts L lv
      ∗ owes (c : Thread nD τ) (owedAfter c 155) W
      ∗ (∀ r, (((chunk outM (bwd c 23) 0).view.loc (c : Thread nD τ) ↦[(chunk outM (bwd c 23) 0).view.set]{fullShare} (chunk outM (bwd c 23) 0).view.rep (reduced m (bwd c 23) 0))
        ∗ (cellInv ER (sched m) (K (dmaCell c agR 0 23)) (dmaCell c agR 0 23) ∗ atPos ER (dmaCell c agR 0 23) 1 ∅ 0)
        ∗ ((chunk outM (bwd c 24) 0).view.loc (c : Thread nD τ) ↦[(chunk outM (bwd c 24) 0).view.set]{fullShare} (chunk outM (bwd c 24) 0).view.rep (reduced m (bwd c 24) 0))
        ∗ (cellInv ER (sched m) (K (dmaCell c agR 0 24)) (dmaCell c agR 0 24) ∗ atPos ER (dmaCell c agR 0 24) 1 ∅ 0)
        ∗ owes (c : Thread nD τ) (owedAfter c 155) (insert (SemLoc.dma (semAt (arr agR) 0 24), ()) (insert (SemLoc.dma (semAt (arr agR) 0 23), ()) (W)))) -∗ Q r))
      ⊢ wp frame (wpE (defs₀ (F := F)) 𝒱₀ c none) Set.univ (k0_part118 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2928) Q := by
  unfold recvRes
  iintro ⟨⟨#IagR0_23, AagR0_23, CagR0_23⟩, ⟨#IagR0_24, AagR0_24, CagR0_24⟩, #Hlev, HO, Hk⟩
  have hmwagR0_23 := mayWait_end (F := F) c (.dma (semAt (arr agR) 0 23))
  have hmwagR0_24 := mayWait_end (F := F) c (.dma (semAt (arr agR) 0 24))
  sl_exec_parts
  sl_step
  iapply Hk
  isplitl [AagR0_23_pay1]; · iexact AagR0_23_pay1
  isplitl [AagR0_23]; · (isplitr; · iexact IagR0_23); iexact AagR0_23
  isplitl [AagR0_24_pay1]; · iexact AagR0_24_pay1
  isplitl [AagR0_24]; · (isplitr; · iexact IagR0_24); iexact AagR0_24
  iexact HO

attribute [local sl_rounds] duties_dma amount_dma expect_dma pay_agR in
set_option maxHeartbeats 4000000 in
theorem part119_spec (c : Dev nD) (v2 : BitVec 32) (W : Waits sig Unit) (Q : (Σ' (v2982 : BitVec 32), BitVec 32) → sProp 𝕄) :
    iprop(recvRes m K agR c 0 25
      ∗ recvRes m K agR c 0 26
      ∗ recvRes m K agR c 0 27
      ∗ levAts L lv
      ∗ owes (c : Thread nD τ) (owedAfter c 155) W
      ∗ (∀ r, (((chunk outM (bwd c 25) 0).view.loc (c : Thread nD τ) ↦[(chunk outM (bwd c 25) 0).view.set]{fullShare} (chunk outM (bwd c 25) 0).view.rep (reduced m (bwd c 25) 0))
        ∗ (cellInv ER (sched m) (K (dmaCell c agR 0 25)) (dmaCell c agR 0 25) ∗ atPos ER (dmaCell c agR 0 25) 1 ∅ 0)
        ∗ ((chunk outM (bwd c 26) 0).view.loc (c : Thread nD τ) ↦[(chunk outM (bwd c 26) 0).view.set]{fullShare} (chunk outM (bwd c 26) 0).view.rep (reduced m (bwd c 26) 0))
        ∗ (cellInv ER (sched m) (K (dmaCell c agR 0 26)) (dmaCell c agR 0 26) ∗ atPos ER (dmaCell c agR 0 26) 1 ∅ 0)
        ∗ ((chunk outM (bwd c 27) 0).view.loc (c : Thread nD τ) ↦[(chunk outM (bwd c 27) 0).view.set]{fullShare} (chunk outM (bwd c 27) 0).view.rep (reduced m (bwd c 27) 0))
        ∗ (cellInv ER (sched m) (K (dmaCell c agR 0 27)) (dmaCell c agR 0 27) ∗ atPos ER (dmaCell c agR 0 27) 1 ∅ 0)
        ∗ owes (c : Thread nD τ) (owedAfter c 155) (insert (SemLoc.dma (semAt (arr agR) 0 27), ()) (insert (SemLoc.dma (semAt (arr agR) 0 26), ()) (insert (SemLoc.dma (semAt (arr agR) 0 25), ()) (W))))) -∗ Q r))
      ⊢ wp frame (wpE (defs₀ (F := F)) 𝒱₀ c none) Set.univ (k0_part119 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold recvRes
  iintro ⟨⟨#IagR0_25, AagR0_25, CagR0_25⟩, ⟨#IagR0_26, AagR0_26, CagR0_26⟩, ⟨#IagR0_27, AagR0_27, CagR0_27⟩, #Hlev, HO, Hk⟩
  have hmwagR0_25 := mayWait_end (F := F) c (.dma (semAt (arr agR) 0 25))
  have hmwagR0_26 := mayWait_end (F := F) c (.dma (semAt (arr agR) 0 26))
  have hmwagR0_27 := mayWait_end (F := F) c (.dma (semAt (arr agR) 0 27))
  sl_exec_parts
  sl_step
  iapply Hk
  isplitl [AagR0_25_pay1]; · iexact AagR0_25_pay1
  isplitl [AagR0_25]; · (isplitr; · iexact IagR0_25); iexact AagR0_25
  isplitl [AagR0_26_pay1]; · iexact AagR0_26_pay1
  isplitl [AagR0_26]; · (isplitr; · iexact IagR0_26); iexact AagR0_26
  isplitl [AagR0_27_pay1]; · iexact AagR0_27_pay1
  isplitl [AagR0_27]; · (isplitr; · iexact IagR0_27); iexact AagR0_27
  iexact HO

attribute [local sl_rounds] duties_dma amount_dma expect_dma pay_agR in
set_option maxHeartbeats 4000000 in
theorem part120_spec (c : Dev nD) (v2 : BitVec 32) (v2982 : BitVec 32) (c32_i32_3803 : BitVec 32) (W : Waits sig Unit) (Q : (Σ' (v3005 : BitVec 32), BitVec 32) → sProp 𝕄) :
    iprop(recvRes m K agR c 0 28
      ∗ recvRes m K agR c 0 29
      ∗ levAts L lv
      ∗ owes (c : Thread nD τ) (owedAfter c 155) W
      ∗ (∀ r, (((chunk outM (bwd c 28) 0).view.loc (c : Thread nD τ) ↦[(chunk outM (bwd c 28) 0).view.set]{fullShare} (chunk outM (bwd c 28) 0).view.rep (reduced m (bwd c 28) 0))
        ∗ (cellInv ER (sched m) (K (dmaCell c agR 0 28)) (dmaCell c agR 0 28) ∗ atPos ER (dmaCell c agR 0 28) 1 ∅ 0)
        ∗ ((chunk outM (bwd c 29) 0).view.loc (c : Thread nD τ) ↦[(chunk outM (bwd c 29) 0).view.set]{fullShare} (chunk outM (bwd c 29) 0).view.rep (reduced m (bwd c 29) 0))
        ∗ (cellInv ER (sched m) (K (dmaCell c agR 0 29)) (dmaCell c agR 0 29) ∗ atPos ER (dmaCell c agR 0 29) 1 ∅ 0)
        ∗ owes (c : Thread nD τ) (owedAfter c 155) (insert (SemLoc.dma (semAt (arr agR) 0 29), ()) (insert (SemLoc.dma (semAt (arr agR) 0 28), ()) (W)))) -∗ Q r))
      ⊢ wp frame (wpE (defs₀ (F := F)) 𝒱₀ c none) Set.univ (k0_part120 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2982 c32_i32_3803) Q := by
  unfold recvRes
  iintro ⟨⟨#IagR0_28, AagR0_28, CagR0_28⟩, ⟨#IagR0_29, AagR0_29, CagR0_29⟩, #Hlev, HO, Hk⟩
  have hmwagR0_28 := mayWait_end (F := F) c (.dma (semAt (arr agR) 0 28))
  have hmwagR0_29 := mayWait_end (F := F) c (.dma (semAt (arr agR) 0 29))
  sl_exec_parts
  sl_step
  iapply Hk
  isplitl [AagR0_28_pay1]; · iexact AagR0_28_pay1
  isplitl [AagR0_28]; · (isplitr; · iexact IagR0_28); iexact AagR0_28
  isplitl [AagR0_29_pay1]; · iexact AagR0_29_pay1
  isplitl [AagR0_29]; · (isplitr; · iexact IagR0_29); iexact AagR0_29
  iexact HO

attribute [local sl_rounds] duties_dma amount_dma expect_dma pay_agR in
set_option maxHeartbeats 4000000 in
theorem part122_spec (c : Dev nD) (v2 : BitVec 32) (v3033 : BitVec 32) (c0_i32_3867 : BitVec 32) (W : Waits sig Unit) (Q : (BitVec 32) → sProp 𝕄) :
    iprop(recvRes m K agR c 1 1
      ∗ recvRes m K agR c 1 2
      ∗ recvRes m K agR c 1 3
      ∗ levAts L lv
      ∗ owes (c : Thread nD τ) (owedAfter c 155) W
      ∗ (∀ r, (((chunk outM (bwd c 1) 1).view.loc (c : Thread nD τ) ↦[(chunk outM (bwd c 1) 1).view.set]{fullShare} (chunk outM (bwd c 1) 1).view.rep (reduced m (bwd c 1) 1))
        ∗ (cellInv ER (sched m) (K (dmaCell c agR 1 1)) (dmaCell c agR 1 1) ∗ atPos ER (dmaCell c agR 1 1) 1 ∅ 0)
        ∗ ((chunk outM (bwd c 2) 1).view.loc (c : Thread nD τ) ↦[(chunk outM (bwd c 2) 1).view.set]{fullShare} (chunk outM (bwd c 2) 1).view.rep (reduced m (bwd c 2) 1))
        ∗ (cellInv ER (sched m) (K (dmaCell c agR 1 2)) (dmaCell c agR 1 2) ∗ atPos ER (dmaCell c agR 1 2) 1 ∅ 0)
        ∗ ((chunk outM (bwd c 3) 1).view.loc (c : Thread nD τ) ↦[(chunk outM (bwd c 3) 1).view.set]{fullShare} (chunk outM (bwd c 3) 1).view.rep (reduced m (bwd c 3) 1))
        ∗ (cellInv ER (sched m) (K (dmaCell c agR 1 3)) (dmaCell c agR 1 3) ∗ atPos ER (dmaCell c agR 1 3) 1 ∅ 0)
        ∗ owes (c : Thread nD τ) (owedAfter c 155) (insert (SemLoc.dma (semAt (arr agR) 1 3), ()) (insert (SemLoc.dma (semAt (arr agR) 1 2), ()) (insert (SemLoc.dma (semAt (arr agR) 1 1), ()) (W))))) -∗ Q r))
      ⊢ wp frame (wpE (defs₀ (F := F)) 𝒱₀ c none) Set.univ (k0_part122 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3033 c0_i32_3867) Q := by
  unfold recvRes
  iintro ⟨⟨#IagR1_1, AagR1_1, CagR1_1⟩, ⟨#IagR1_2, AagR1_2, CagR1_2⟩, ⟨#IagR1_3, AagR1_3, CagR1_3⟩, #Hlev, HO, Hk⟩
  have hmwagR1_1 := mayWait_end (F := F) c (.dma (semAt (arr agR) 1 1))
  have hmwagR1_2 := mayWait_end (F := F) c (.dma (semAt (arr agR) 1 2))
  have hmwagR1_3 := mayWait_end (F := F) c (.dma (semAt (arr agR) 1 3))
  sl_exec_parts
  sl_step
  iapply Hk
  isplitl [AagR1_1_pay1]; · iexact AagR1_1_pay1
  isplitl [AagR1_1]; · (isplitr; · iexact IagR1_1); iexact AagR1_1
  isplitl [AagR1_2_pay1]; · iexact AagR1_2_pay1
  isplitl [AagR1_2]; · (isplitr; · iexact IagR1_2); iexact AagR1_2
  isplitl [AagR1_3_pay1]; · iexact AagR1_3_pay1
  isplitl [AagR1_3]; · (isplitr; · iexact IagR1_3); iexact AagR1_3
  iexact HO

attribute [local sl_rounds] duties_dma amount_dma expect_dma pay_agR in
set_option maxHeartbeats 4000000 in
theorem part123_spec (c : Dev nD) (v2 : BitVec 32) (v3061 : BitVec 32) (W : Waits sig Unit) (Q : (BitVec 32) → sProp 𝕄) :
    iprop(recvRes m K agR c 1 4
      ∗ recvRes m K agR c 1 5
      ∗ levAts L lv
      ∗ owes (c : Thread nD τ) (owedAfter c 155) W
      ∗ (∀ r, (((chunk outM (bwd c 4) 1).view.loc (c : Thread nD τ) ↦[(chunk outM (bwd c 4) 1).view.set]{fullShare} (chunk outM (bwd c 4) 1).view.rep (reduced m (bwd c 4) 1))
        ∗ (cellInv ER (sched m) (K (dmaCell c agR 1 4)) (dmaCell c agR 1 4) ∗ atPos ER (dmaCell c agR 1 4) 1 ∅ 0)
        ∗ ((chunk outM (bwd c 5) 1).view.loc (c : Thread nD τ) ↦[(chunk outM (bwd c 5) 1).view.set]{fullShare} (chunk outM (bwd c 5) 1).view.rep (reduced m (bwd c 5) 1))
        ∗ (cellInv ER (sched m) (K (dmaCell c agR 1 5)) (dmaCell c agR 1 5) ∗ atPos ER (dmaCell c agR 1 5) 1 ∅ 0)
        ∗ owes (c : Thread nD τ) (owedAfter c 155) (insert (SemLoc.dma (semAt (arr agR) 1 5), ()) (insert (SemLoc.dma (semAt (arr agR) 1 4), ()) (W)))) -∗ Q r))
      ⊢ wp frame (wpE (defs₀ (F := F)) 𝒱₀ c none) Set.univ (k0_part123 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3061) Q := by
  unfold recvRes
  iintro ⟨⟨#IagR1_4, AagR1_4, CagR1_4⟩, ⟨#IagR1_5, AagR1_5, CagR1_5⟩, #Hlev, HO, Hk⟩
  have hmwagR1_4 := mayWait_end (F := F) c (.dma (semAt (arr agR) 1 4))
  have hmwagR1_5 := mayWait_end (F := F) c (.dma (semAt (arr agR) 1 5))
  sl_exec_parts
  sl_step
  iapply Hk
  isplitl [AagR1_4_pay1]; · iexact AagR1_4_pay1
  isplitl [AagR1_4]; · (isplitr; · iexact IagR1_4); iexact AagR1_4
  isplitl [AagR1_5_pay1]; · iexact AagR1_5_pay1
  isplitl [AagR1_5]; · (isplitr; · iexact IagR1_5); iexact AagR1_5
  iexact HO

attribute [local sl_rounds] duties_dma amount_dma expect_dma pay_agR in
set_option maxHeartbeats 4000000 in
theorem part124_spec (c : Dev nD) (v2 : BitVec 32) (v3085 : BitVec 32) (W : Waits sig Unit) (Q : (PUnit) → sProp 𝕄) :
    iprop(recvRes m K agR c 1 6
      ∗ recvRes m K agR c 1 7
      ∗ levAts L lv
      ∗ owes (c : Thread nD τ) (owedAfter c 155) W
      ∗ (∀ r, (((chunk outM (bwd c 6) 1).view.loc (c : Thread nD τ) ↦[(chunk outM (bwd c 6) 1).view.set]{fullShare} (chunk outM (bwd c 6) 1).view.rep (reduced m (bwd c 6) 1))
        ∗ (cellInv ER (sched m) (K (dmaCell c agR 1 6)) (dmaCell c agR 1 6) ∗ atPos ER (dmaCell c agR 1 6) 1 ∅ 0)
        ∗ ((chunk outM (bwd c 7) 1).view.loc (c : Thread nD τ) ↦[(chunk outM (bwd c 7) 1).view.set]{fullShare} (chunk outM (bwd c 7) 1).view.rep (reduced m (bwd c 7) 1))
        ∗ (cellInv ER (sched m) (K (dmaCell c agR 1 7)) (dmaCell c agR 1 7) ∗ atPos ER (dmaCell c agR 1 7) 1 ∅ 0)
        ∗ owes (c : Thread nD τ) (owedAfter c 155) (insert (SemLoc.dma (semAt (arr agR) 1 7), ()) (insert (SemLoc.dma (semAt (arr agR) 1 6), ()) (W)))) -∗ Q r))
      ⊢ wp frame (wpE (defs₀ (F := F)) 𝒱₀ c none) Set.univ (k0_part124 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3085) Q := by
  unfold recvRes
  iintro ⟨⟨#IagR1_6, AagR1_6, CagR1_6⟩, ⟨#IagR1_7, AagR1_7, CagR1_7⟩, #Hlev, HO, Hk⟩
  have hmwagR1_6 := mayWait_end (F := F) c (.dma (semAt (arr agR) 1 6))
  have hmwagR1_7 := mayWait_end (F := F) c (.dma (semAt (arr agR) 1 7))
  sl_exec_parts
  sl_step
  iapply Hk
  isplitl [AagR1_6_pay1]; · iexact AagR1_6_pay1
  isplitl [AagR1_6]; · (isplitr; · iexact IagR1_6); iexact AagR1_6
  isplitl [AagR1_7_pay1]; · iexact AagR1_7_pay1
  isplitl [AagR1_7]; · (isplitr; · iexact IagR1_7); iexact AagR1_7
  iexact HO

attribute [local sl_rounds] duties_dma amount_dma expect_dma pay_agR in
set_option maxHeartbeats 4000000 in
theorem part125_spec (c : Dev nD) (v2 : BitVec 32) (W : Waits sig Unit) (Q : (Σ' (v3140 : BitVec 32), BitVec 32) → sProp 𝕄) :
    iprop(recvRes m K agR c 1 8
      ∗ recvRes m K agR c 1 9
      ∗ recvRes m K agR c 1 10
      ∗ levAts L lv
      ∗ owes (c : Thread nD τ) (owedAfter c 155) W
      ∗ (∀ r, (((chunk outM (bwd c 8) 1).view.loc (c : Thread nD τ) ↦[(chunk outM (bwd c 8) 1).view.set]{fullShare} (chunk outM (bwd c 8) 1).view.rep (reduced m (bwd c 8) 1))
        ∗ (cellInv ER (sched m) (K (dmaCell c agR 1 8)) (dmaCell c agR 1 8) ∗ atPos ER (dmaCell c agR 1 8) 1 ∅ 0)
        ∗ ((chunk outM (bwd c 9) 1).view.loc (c : Thread nD τ) ↦[(chunk outM (bwd c 9) 1).view.set]{fullShare} (chunk outM (bwd c 9) 1).view.rep (reduced m (bwd c 9) 1))
        ∗ (cellInv ER (sched m) (K (dmaCell c agR 1 9)) (dmaCell c agR 1 9) ∗ atPos ER (dmaCell c agR 1 9) 1 ∅ 0)
        ∗ ((chunk outM (bwd c 10) 1).view.loc (c : Thread nD τ) ↦[(chunk outM (bwd c 10) 1).view.set]{fullShare} (chunk outM (bwd c 10) 1).view.rep (reduced m (bwd c 10) 1))
        ∗ (cellInv ER (sched m) (K (dmaCell c agR 1 10)) (dmaCell c agR 1 10) ∗ atPos ER (dmaCell c agR 1 10) 1 ∅ 0)
        ∗ owes (c : Thread nD τ) (owedAfter c 155) (insert (SemLoc.dma (semAt (arr agR) 1 10), ()) (insert (SemLoc.dma (semAt (arr agR) 1 9), ()) (insert (SemLoc.dma (semAt (arr agR) 1 8), ()) (W))))) -∗ Q r))
      ⊢ wp frame (wpE (defs₀ (F := F)) 𝒱₀ c none) Set.univ (k0_part125 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold recvRes
  iintro ⟨⟨#IagR1_8, AagR1_8, CagR1_8⟩, ⟨#IagR1_9, AagR1_9, CagR1_9⟩, ⟨#IagR1_10, AagR1_10, CagR1_10⟩, #Hlev, HO, Hk⟩
  have hmwagR1_8 := mayWait_end (F := F) c (.dma (semAt (arr agR) 1 8))
  have hmwagR1_9 := mayWait_end (F := F) c (.dma (semAt (arr agR) 1 9))
  have hmwagR1_10 := mayWait_end (F := F) c (.dma (semAt (arr agR) 1 10))
  sl_exec_parts
  sl_step
  iapply Hk
  isplitl [AagR1_8_pay1]; · iexact AagR1_8_pay1
  isplitl [AagR1_8]; · (isplitr; · iexact IagR1_8); iexact AagR1_8
  isplitl [AagR1_9_pay1]; · iexact AagR1_9_pay1
  isplitl [AagR1_9]; · (isplitr; · iexact IagR1_9); iexact AagR1_9
  isplitl [AagR1_10_pay1]; · iexact AagR1_10_pay1
  isplitl [AagR1_10]; · (isplitr; · iexact IagR1_10); iexact AagR1_10
  iexact HO

attribute [local sl_rounds] duties_dma amount_dma expect_dma pay_agR in
set_option maxHeartbeats 4000000 in
theorem part126_spec (c : Dev nD) (v2 : BitVec 32) (v3140 : BitVec 32) (c32_i32_3990 : BitVec 32) (W : Waits sig Unit) (Q : (Σ' (v3165 : BitVec 32), BitVec 32) → sProp 𝕄) :
    iprop(recvRes m K agR c 1 11
      ∗ recvRes m K agR c 1 12
      ∗ levAts L lv
      ∗ owes (c : Thread nD τ) (owedAfter c 155) W
      ∗ (∀ r, (((chunk outM (bwd c 11) 1).view.loc (c : Thread nD τ) ↦[(chunk outM (bwd c 11) 1).view.set]{fullShare} (chunk outM (bwd c 11) 1).view.rep (reduced m (bwd c 11) 1))
        ∗ (cellInv ER (sched m) (K (dmaCell c agR 1 11)) (dmaCell c agR 1 11) ∗ atPos ER (dmaCell c agR 1 11) 1 ∅ 0)
        ∗ ((chunk outM (bwd c 12) 1).view.loc (c : Thread nD τ) ↦[(chunk outM (bwd c 12) 1).view.set]{fullShare} (chunk outM (bwd c 12) 1).view.rep (reduced m (bwd c 12) 1))
        ∗ (cellInv ER (sched m) (K (dmaCell c agR 1 12)) (dmaCell c agR 1 12) ∗ atPos ER (dmaCell c agR 1 12) 1 ∅ 0)
        ∗ owes (c : Thread nD τ) (owedAfter c 155) (insert (SemLoc.dma (semAt (arr agR) 1 12), ()) (insert (SemLoc.dma (semAt (arr agR) 1 11), ()) (W)))) -∗ Q r))
      ⊢ wp frame (wpE (defs₀ (F := F)) 𝒱₀ c none) Set.univ (k0_part126 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3140 c32_i32_3990) Q := by
  unfold recvRes
  iintro ⟨⟨#IagR1_11, AagR1_11, CagR1_11⟩, ⟨#IagR1_12, AagR1_12, CagR1_12⟩, #Hlev, HO, Hk⟩
  have hmwagR1_11 := mayWait_end (F := F) c (.dma (semAt (arr agR) 1 11))
  have hmwagR1_12 := mayWait_end (F := F) c (.dma (semAt (arr agR) 1 12))
  sl_exec_parts
  sl_step
  iapply Hk
  isplitl [AagR1_11_pay1]; · iexact AagR1_11_pay1
  isplitl [AagR1_11]; · (isplitr; · iexact IagR1_11); iexact AagR1_11
  isplitl [AagR1_12_pay1]; · iexact AagR1_12_pay1
  isplitl [AagR1_12]; · (isplitr; · iexact IagR1_12); iexact AagR1_12
  iexact HO

attribute [local sl_rounds] duties_dma amount_dma expect_dma pay_agR in
set_option maxHeartbeats 4000000 in
theorem part127_spec (c : Dev nD) (v2 : BitVec 32) (v3165 : BitVec 32) (c0_i32_4023 : BitVec 32) (W : Waits sig Unit) (Q : (BitVec 32) → sProp 𝕄) :
    iprop(recvRes m K agR c 1 13
      ∗ recvRes m K agR c 1 14
      ∗ recvRes m K agR c 1 15
      ∗ levAts L lv
      ∗ owes (c : Thread nD τ) (owedAfter c 155) W
      ∗ (∀ r, (((chunk outM (bwd c 13) 1).view.loc (c : Thread nD τ) ↦[(chunk outM (bwd c 13) 1).view.set]{fullShare} (chunk outM (bwd c 13) 1).view.rep (reduced m (bwd c 13) 1))
        ∗ (cellInv ER (sched m) (K (dmaCell c agR 1 13)) (dmaCell c agR 1 13) ∗ atPos ER (dmaCell c agR 1 13) 1 ∅ 0)
        ∗ ((chunk outM (bwd c 14) 1).view.loc (c : Thread nD τ) ↦[(chunk outM (bwd c 14) 1).view.set]{fullShare} (chunk outM (bwd c 14) 1).view.rep (reduced m (bwd c 14) 1))
        ∗ (cellInv ER (sched m) (K (dmaCell c agR 1 14)) (dmaCell c agR 1 14) ∗ atPos ER (dmaCell c agR 1 14) 1 ∅ 0)
        ∗ ((chunk outM (bwd c 15) 1).view.loc (c : Thread nD τ) ↦[(chunk outM (bwd c 15) 1).view.set]{fullShare} (chunk outM (bwd c 15) 1).view.rep (reduced m (bwd c 15) 1))
        ∗ (cellInv ER (sched m) (K (dmaCell c agR 1 15)) (dmaCell c agR 1 15) ∗ atPos ER (dmaCell c agR 1 15) 1 ∅ 0)
        ∗ owes (c : Thread nD τ) (owedAfter c 155) (insert (SemLoc.dma (semAt (arr agR) 1 15), ()) (insert (SemLoc.dma (semAt (arr agR) 1 14), ()) (insert (SemLoc.dma (semAt (arr agR) 1 13), ()) (W))))) -∗ Q r))
      ⊢ wp frame (wpE (defs₀ (F := F)) 𝒱₀ c none) Set.univ (k0_part127 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3165 c0_i32_4023) Q := by
  unfold recvRes
  iintro ⟨⟨#IagR1_13, AagR1_13, CagR1_13⟩, ⟨#IagR1_14, AagR1_14, CagR1_14⟩, ⟨#IagR1_15, AagR1_15, CagR1_15⟩, #Hlev, HO, Hk⟩
  have hmwagR1_13 := mayWait_end (F := F) c (.dma (semAt (arr agR) 1 13))
  have hmwagR1_14 := mayWait_end (F := F) c (.dma (semAt (arr agR) 1 14))
  have hmwagR1_15 := mayWait_end (F := F) c (.dma (semAt (arr agR) 1 15))
  sl_exec_parts
  sl_step
  iapply Hk
  isplitl [AagR1_13_pay1]; · iexact AagR1_13_pay1
  isplitl [AagR1_13]; · (isplitr; · iexact IagR1_13); iexact AagR1_13
  isplitl [AagR1_14_pay1]; · iexact AagR1_14_pay1
  isplitl [AagR1_14]; · (isplitr; · iexact IagR1_14); iexact AagR1_14
  isplitl [AagR1_15_pay1]; · iexact AagR1_15_pay1
  isplitl [AagR1_15]; · (isplitr; · iexact IagR1_15); iexact AagR1_15
  iexact HO

attribute [local sl_rounds] duties_dma amount_dma expect_dma pay_agR in
set_option maxHeartbeats 4000000 in
theorem part128_spec (c : Dev nD) (v2 : BitVec 32) (v3193 : BitVec 32) (W : Waits sig Unit) (Q : (BitVec 32) → sProp 𝕄) :
    iprop(recvRes m K agR c 1 16
      ∗ recvRes m K agR c 1 17
      ∗ levAts L lv
      ∗ owes (c : Thread nD τ) (owedAfter c 155) W
      ∗ (∀ r, (((chunk outM (bwd c 16) 1).view.loc (c : Thread nD τ) ↦[(chunk outM (bwd c 16) 1).view.set]{fullShare} (chunk outM (bwd c 16) 1).view.rep (reduced m (bwd c 16) 1))
        ∗ (cellInv ER (sched m) (K (dmaCell c agR 1 16)) (dmaCell c agR 1 16) ∗ atPos ER (dmaCell c agR 1 16) 1 ∅ 0)
        ∗ ((chunk outM (bwd c 17) 1).view.loc (c : Thread nD τ) ↦[(chunk outM (bwd c 17) 1).view.set]{fullShare} (chunk outM (bwd c 17) 1).view.rep (reduced m (bwd c 17) 1))
        ∗ (cellInv ER (sched m) (K (dmaCell c agR 1 17)) (dmaCell c agR 1 17) ∗ atPos ER (dmaCell c agR 1 17) 1 ∅ 0)
        ∗ owes (c : Thread nD τ) (owedAfter c 155) (insert (SemLoc.dma (semAt (arr agR) 1 17), ()) (insert (SemLoc.dma (semAt (arr agR) 1 16), ()) (W)))) -∗ Q r))
      ⊢ wp frame (wpE (defs₀ (F := F)) 𝒱₀ c none) Set.univ (k0_part128 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3193) Q := by
  unfold recvRes
  iintro ⟨⟨#IagR1_16, AagR1_16, CagR1_16⟩, ⟨#IagR1_17, AagR1_17, CagR1_17⟩, #Hlev, HO, Hk⟩
  have hmwagR1_16 := mayWait_end (F := F) c (.dma (semAt (arr agR) 1 16))
  have hmwagR1_17 := mayWait_end (F := F) c (.dma (semAt (arr agR) 1 17))
  sl_exec_parts
  sl_step
  iapply Hk
  isplitl [AagR1_16_pay1]; · iexact AagR1_16_pay1
  isplitl [AagR1_16]; · (isplitr; · iexact IagR1_16); iexact AagR1_16
  isplitl [AagR1_17_pay1]; · iexact AagR1_17_pay1
  isplitl [AagR1_17]; · (isplitr; · iexact IagR1_17); iexact AagR1_17
  iexact HO

attribute [local sl_rounds] duties_dma amount_dma expect_dma pay_agR in
set_option maxHeartbeats 4000000 in
theorem part129_spec (c : Dev nD) (v2 : BitVec 32) (v3217 : BitVec 32) (W : Waits sig Unit) (Q : (PUnit) → sProp 𝕄) :
    iprop(recvRes m K agR c 1 18
      ∗ recvRes m K agR c 1 19
      ∗ levAts L lv
      ∗ owes (c : Thread nD τ) (owedAfter c 155) W
      ∗ (∀ r, (((chunk outM (bwd c 18) 1).view.loc (c : Thread nD τ) ↦[(chunk outM (bwd c 18) 1).view.set]{fullShare} (chunk outM (bwd c 18) 1).view.rep (reduced m (bwd c 18) 1))
        ∗ (cellInv ER (sched m) (K (dmaCell c agR 1 18)) (dmaCell c agR 1 18) ∗ atPos ER (dmaCell c agR 1 18) 1 ∅ 0)
        ∗ ((chunk outM (bwd c 19) 1).view.loc (c : Thread nD τ) ↦[(chunk outM (bwd c 19) 1).view.set]{fullShare} (chunk outM (bwd c 19) 1).view.rep (reduced m (bwd c 19) 1))
        ∗ (cellInv ER (sched m) (K (dmaCell c agR 1 19)) (dmaCell c agR 1 19) ∗ atPos ER (dmaCell c agR 1 19) 1 ∅ 0)
        ∗ owes (c : Thread nD τ) (owedAfter c 155) (insert (SemLoc.dma (semAt (arr agR) 1 19), ()) (insert (SemLoc.dma (semAt (arr agR) 1 18), ()) (W)))) -∗ Q r))
      ⊢ wp frame (wpE (defs₀ (F := F)) 𝒱₀ c none) Set.univ (k0_part129 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3217) Q := by
  unfold recvRes
  iintro ⟨⟨#IagR1_18, AagR1_18, CagR1_18⟩, ⟨#IagR1_19, AagR1_19, CagR1_19⟩, #Hlev, HO, Hk⟩
  have hmwagR1_18 := mayWait_end (F := F) c (.dma (semAt (arr agR) 1 18))
  have hmwagR1_19 := mayWait_end (F := F) c (.dma (semAt (arr agR) 1 19))
  sl_exec_parts
  sl_step
  iapply Hk
  isplitl [AagR1_18_pay1]; · iexact AagR1_18_pay1
  isplitl [AagR1_18]; · (isplitr; · iexact IagR1_18); iexact AagR1_18
  isplitl [AagR1_19_pay1]; · iexact AagR1_19_pay1
  isplitl [AagR1_19]; · (isplitr; · iexact IagR1_19); iexact AagR1_19
  iexact HO

attribute [local sl_rounds] duties_dma amount_dma expect_dma pay_agR in
set_option maxHeartbeats 4000000 in
theorem part130_spec (c : Dev nD) (v2 : BitVec 32) (W : Waits sig Unit) (Q : (Σ' (v3272 : BitVec 32), BitVec 32) → sProp 𝕄) :
    iprop(recvRes m K agR c 1 20
      ∗ recvRes m K agR c 1 21
      ∗ recvRes m K agR c 1 22
      ∗ levAts L lv
      ∗ owes (c : Thread nD τ) (owedAfter c 155) W
      ∗ (∀ r, (((chunk outM (bwd c 20) 1).view.loc (c : Thread nD τ) ↦[(chunk outM (bwd c 20) 1).view.set]{fullShare} (chunk outM (bwd c 20) 1).view.rep (reduced m (bwd c 20) 1))
        ∗ (cellInv ER (sched m) (K (dmaCell c agR 1 20)) (dmaCell c agR 1 20) ∗ atPos ER (dmaCell c agR 1 20) 1 ∅ 0)
        ∗ ((chunk outM (bwd c 21) 1).view.loc (c : Thread nD τ) ↦[(chunk outM (bwd c 21) 1).view.set]{fullShare} (chunk outM (bwd c 21) 1).view.rep (reduced m (bwd c 21) 1))
        ∗ (cellInv ER (sched m) (K (dmaCell c agR 1 21)) (dmaCell c agR 1 21) ∗ atPos ER (dmaCell c agR 1 21) 1 ∅ 0)
        ∗ ((chunk outM (bwd c 22) 1).view.loc (c : Thread nD τ) ↦[(chunk outM (bwd c 22) 1).view.set]{fullShare} (chunk outM (bwd c 22) 1).view.rep (reduced m (bwd c 22) 1))
        ∗ (cellInv ER (sched m) (K (dmaCell c agR 1 22)) (dmaCell c agR 1 22) ∗ atPos ER (dmaCell c agR 1 22) 1 ∅ 0)
        ∗ owes (c : Thread nD τ) (owedAfter c 155) (insert (SemLoc.dma (semAt (arr agR) 1 22), ()) (insert (SemLoc.dma (semAt (arr agR) 1 21), ()) (insert (SemLoc.dma (semAt (arr agR) 1 20), ()) (W))))) -∗ Q r))
      ⊢ wp frame (wpE (defs₀ (F := F)) 𝒱₀ c none) Set.univ (k0_part130 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  unfold recvRes
  iintro ⟨⟨#IagR1_20, AagR1_20, CagR1_20⟩, ⟨#IagR1_21, AagR1_21, CagR1_21⟩, ⟨#IagR1_22, AagR1_22, CagR1_22⟩, #Hlev, HO, Hk⟩
  have hmwagR1_20 := mayWait_end (F := F) c (.dma (semAt (arr agR) 1 20))
  have hmwagR1_21 := mayWait_end (F := F) c (.dma (semAt (arr agR) 1 21))
  have hmwagR1_22 := mayWait_end (F := F) c (.dma (semAt (arr agR) 1 22))
  sl_exec_parts
  sl_step
  iapply Hk
  isplitl [AagR1_20_pay1]; · iexact AagR1_20_pay1
  isplitl [AagR1_20]; · (isplitr; · iexact IagR1_20); iexact AagR1_20
  isplitl [AagR1_21_pay1]; · iexact AagR1_21_pay1
  isplitl [AagR1_21]; · (isplitr; · iexact IagR1_21); iexact AagR1_21
  isplitl [AagR1_22_pay1]; · iexact AagR1_22_pay1
  isplitl [AagR1_22]; · (isplitr; · iexact IagR1_22); iexact AagR1_22
  iexact HO

attribute [local sl_rounds] duties_dma amount_dma expect_dma pay_agR in
set_option maxHeartbeats 4000000 in
theorem part131_spec (c : Dev nD) (v2 : BitVec 32) (v3272 : BitVec 32) (c32_i32_4146 : BitVec 32) (W : Waits sig Unit) (Q : (Σ' (v3297 : BitVec 32), BitVec 32) → sProp 𝕄) :
    iprop(recvRes m K agR c 1 23
      ∗ recvRes m K agR c 1 24
      ∗ levAts L lv
      ∗ owes (c : Thread nD τ) (owedAfter c 155) W
      ∗ (∀ r, (((chunk outM (bwd c 23) 1).view.loc (c : Thread nD τ) ↦[(chunk outM (bwd c 23) 1).view.set]{fullShare} (chunk outM (bwd c 23) 1).view.rep (reduced m (bwd c 23) 1))
        ∗ (cellInv ER (sched m) (K (dmaCell c agR 1 23)) (dmaCell c agR 1 23) ∗ atPos ER (dmaCell c agR 1 23) 1 ∅ 0)
        ∗ ((chunk outM (bwd c 24) 1).view.loc (c : Thread nD τ) ↦[(chunk outM (bwd c 24) 1).view.set]{fullShare} (chunk outM (bwd c 24) 1).view.rep (reduced m (bwd c 24) 1))
        ∗ (cellInv ER (sched m) (K (dmaCell c agR 1 24)) (dmaCell c agR 1 24) ∗ atPos ER (dmaCell c agR 1 24) 1 ∅ 0)
        ∗ owes (c : Thread nD τ) (owedAfter c 155) (insert (SemLoc.dma (semAt (arr agR) 1 24), ()) (insert (SemLoc.dma (semAt (arr agR) 1 23), ()) (W)))) -∗ Q r))
      ⊢ wp frame (wpE (defs₀ (F := F)) 𝒱₀ c none) Set.univ (k0_part131 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3272 c32_i32_4146) Q := by
  unfold recvRes
  iintro ⟨⟨#IagR1_23, AagR1_23, CagR1_23⟩, ⟨#IagR1_24, AagR1_24, CagR1_24⟩, #Hlev, HO, Hk⟩
  have hmwagR1_23 := mayWait_end (F := F) c (.dma (semAt (arr agR) 1 23))
  have hmwagR1_24 := mayWait_end (F := F) c (.dma (semAt (arr agR) 1 24))
  sl_exec_parts
  sl_step
  iapply Hk
  isplitl [AagR1_23_pay1]; · iexact AagR1_23_pay1
  isplitl [AagR1_23]; · (isplitr; · iexact IagR1_23); iexact AagR1_23
  isplitl [AagR1_24_pay1]; · iexact AagR1_24_pay1
  isplitl [AagR1_24]; · (isplitr; · iexact IagR1_24); iexact AagR1_24
  iexact HO

attribute [local sl_rounds] duties_dma amount_dma expect_dma pay_agR in
set_option maxHeartbeats 4000000 in
theorem part132_spec (c : Dev nD) (v2 : BitVec 32) (v3297 : BitVec 32) (c0_i32_4179 : BitVec 32) (W : Waits sig Unit) (Q : (BitVec 32) → sProp 𝕄) :
    iprop(recvRes m K agR c 1 25
      ∗ recvRes m K agR c 1 26
      ∗ recvRes m K agR c 1 27
      ∗ levAts L lv
      ∗ owes (c : Thread nD τ) (owedAfter c 155) W
      ∗ (∀ r, (((chunk outM (bwd c 25) 1).view.loc (c : Thread nD τ) ↦[(chunk outM (bwd c 25) 1).view.set]{fullShare} (chunk outM (bwd c 25) 1).view.rep (reduced m (bwd c 25) 1))
        ∗ (cellInv ER (sched m) (K (dmaCell c agR 1 25)) (dmaCell c agR 1 25) ∗ atPos ER (dmaCell c agR 1 25) 1 ∅ 0)
        ∗ ((chunk outM (bwd c 26) 1).view.loc (c : Thread nD τ) ↦[(chunk outM (bwd c 26) 1).view.set]{fullShare} (chunk outM (bwd c 26) 1).view.rep (reduced m (bwd c 26) 1))
        ∗ (cellInv ER (sched m) (K (dmaCell c agR 1 26)) (dmaCell c agR 1 26) ∗ atPos ER (dmaCell c agR 1 26) 1 ∅ 0)
        ∗ ((chunk outM (bwd c 27) 1).view.loc (c : Thread nD τ) ↦[(chunk outM (bwd c 27) 1).view.set]{fullShare} (chunk outM (bwd c 27) 1).view.rep (reduced m (bwd c 27) 1))
        ∗ (cellInv ER (sched m) (K (dmaCell c agR 1 27)) (dmaCell c agR 1 27) ∗ atPos ER (dmaCell c agR 1 27) 1 ∅ 0)
        ∗ owes (c : Thread nD τ) (owedAfter c 155) (insert (SemLoc.dma (semAt (arr agR) 1 27), ()) (insert (SemLoc.dma (semAt (arr agR) 1 26), ()) (insert (SemLoc.dma (semAt (arr agR) 1 25), ()) (W))))) -∗ Q r))
      ⊢ wp frame (wpE (defs₀ (F := F)) 𝒱₀ c none) Set.univ (k0_part132 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3297 c0_i32_4179) Q := by
  unfold recvRes
  iintro ⟨⟨#IagR1_25, AagR1_25, CagR1_25⟩, ⟨#IagR1_26, AagR1_26, CagR1_26⟩, ⟨#IagR1_27, AagR1_27, CagR1_27⟩, #Hlev, HO, Hk⟩
  have hmwagR1_25 := mayWait_end (F := F) c (.dma (semAt (arr agR) 1 25))
  have hmwagR1_26 := mayWait_end (F := F) c (.dma (semAt (arr agR) 1 26))
  have hmwagR1_27 := mayWait_end (F := F) c (.dma (semAt (arr agR) 1 27))
  sl_exec_parts
  sl_step
  iapply Hk
  isplitl [AagR1_25_pay1]; · iexact AagR1_25_pay1
  isplitl [AagR1_25]; · (isplitr; · iexact IagR1_25); iexact AagR1_25
  isplitl [AagR1_26_pay1]; · iexact AagR1_26_pay1
  isplitl [AagR1_26]; · (isplitr; · iexact IagR1_26); iexact AagR1_26
  isplitl [AagR1_27_pay1]; · iexact AagR1_27_pay1
  isplitl [AagR1_27]; · (isplitr; · iexact IagR1_27); iexact AagR1_27
  iexact HO

attribute [local sl_rounds] duties_dma amount_dma expect_dma pay_agR in
set_option maxHeartbeats 4000000 in
theorem part133_spec (c : Dev nD) (v2 : BitVec 32) (v3325 : BitVec 32) (W : Waits sig Unit) (Q : (BitVec 32) → sProp 𝕄) :
    iprop(recvRes m K agR c 1 28
      ∗ recvRes m K agR c 1 29
      ∗ levAts L lv
      ∗ owes (c : Thread nD τ) (owedAfter c 155) W
      ∗ (∀ r, (((chunk outM (bwd c 28) 1).view.loc (c : Thread nD τ) ↦[(chunk outM (bwd c 28) 1).view.set]{fullShare} (chunk outM (bwd c 28) 1).view.rep (reduced m (bwd c 28) 1))
        ∗ (cellInv ER (sched m) (K (dmaCell c agR 1 28)) (dmaCell c agR 1 28) ∗ atPos ER (dmaCell c agR 1 28) 1 ∅ 0)
        ∗ ((chunk outM (bwd c 29) 1).view.loc (c : Thread nD τ) ↦[(chunk outM (bwd c 29) 1).view.set]{fullShare} (chunk outM (bwd c 29) 1).view.rep (reduced m (bwd c 29) 1))
        ∗ (cellInv ER (sched m) (K (dmaCell c agR 1 29)) (dmaCell c agR 1 29) ∗ atPos ER (dmaCell c agR 1 29) 1 ∅ 0)
        ∗ owes (c : Thread nD τ) (owedAfter c 155) (insert (SemLoc.dma (semAt (arr agR) 1 29), ()) (insert (SemLoc.dma (semAt (arr agR) 1 28), ()) (W)))) -∗ Q r))
      ⊢ wp frame (wpE (defs₀ (F := F)) 𝒱₀ c none) Set.univ (k0_part133 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3325) Q := by
  unfold recvRes
  iintro ⟨⟨#IagR1_28, AagR1_28, CagR1_28⟩, ⟨#IagR1_29, AagR1_29, CagR1_29⟩, #Hlev, HO, Hk⟩
  have hmwagR1_28 := mayWait_end (F := F) c (.dma (semAt (arr agR) 1 28))
  have hmwagR1_29 := mayWait_end (F := F) c (.dma (semAt (arr agR) 1 29))
  sl_exec_parts
  sl_step
  iapply Hk
  isplitl [AagR1_28_pay1]; · iexact AagR1_28_pay1
  isplitl [AagR1_28]; · (isplitr; · iexact IagR1_28); iexact AagR1_28
  isplitl [AagR1_29_pay1]; · iexact AagR1_29_pay1
  isplitl [AagR1_29]; · (isplitr; · iexact IagR1_29); iexact AagR1_29
  iexact HO

end Cert.Kernel.AllReduce

end
-- ==== Proof.Word.BodyWaitsE.lean ====
/-
  The send waits of the gather phase: each hands back one share of the device's own finished rows.
  One statement per printed part of the kernel body, over the resources that part touches and nothing else.
-/
import proofs.«900438_g7700000000000439_dist_gemm_ar_m1024_k1024_n1024_f32_gelu_v7x_i32_1_alg».proof.Proof.Word.BodyTables
noncomputable section
namespace Cert.Kernel.AllReduce
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_agS in
set_option maxHeartbeats 4000000 in
theorem part135_spec (c : Dev nD)  (W : Waits sig Unit) (Q : (PUnit) → sProp 𝕄) :
    iprop(recvRes m K agS c 0 2
      ∗ recvRes m K agS c 0 3
      ∗ recvRes m K agS c 0 4
      ∗ recvRes m K agS c 0 5
      ∗ recvRes m K agS c 0 6
      ∗ levAts L lv
      ∗ owes (c : Thread nD τ) (owedAfter c 155) W
      ∗ (∀ r, (((chunk outM c 0).view.loc (c : Thread nD τ) ↦[(chunk outM c 0).view.set]{shr 2} (chunk outM c 0).view.rep (reduced m c 0))
        ∗ (cellInv ER (sched m) (K (dmaCell c agS 0 2)) (dmaCell c agS 0 2) ∗ atPos ER (dmaCell c agS 0 2) 1 ∅ 0)
        ∗ ((chunk outM c 0).view.loc (c : Thread nD τ) ↦[(chunk outM c 0).view.set]{shr 3} (chunk outM c 0).view.rep (reduced m c 0))
        ∗ (cellInv ER (sched m) (K (dmaCell c agS 0 3)) (dmaCell c agS 0 3) ∗ atPos ER (dmaCell c agS 0 3) 1 ∅ 0)
        ∗ ((chunk outM c 0).view.loc (c : Thread nD τ) ↦[(chunk outM c 0).view.set]{shr 4} (chunk outM c 0).view.rep (reduced m c 0))
        ∗ (cellInv ER (sched m) (K (dmaCell c agS 0 4)) (dmaCell c agS 0 4) ∗ atPos ER (dmaCell c agS 0 4) 1 ∅ 0)
        ∗ ((chunk outM c 0).view.loc (c : Thread nD τ) ↦[(chunk outM c 0).view.set]{shr 5} (chunk outM c 0).view.rep (reduced m c 0))
        ∗ (cellInv ER (sched m) (K (dmaCell c agS 0 5)) (dmaCell c agS 0 5) ∗ atPos ER (dmaCell c agS 0 5) 1 ∅ 0)
        ∗ ((chunk outM c 0).view.loc (c : Thread nD τ) ↦[(chunk outM c 0).view.set]{shr 6} (chunk outM c 0).view.rep (reduced m c 0))
        ∗ (cellInv ER (sched m) (K (dmaCell c agS 0 6)) (dmaCell c agS 0 6) ∗ atPos ER (dmaCell c agS 0 6) 1 ∅ 0)
        ∗ owes (c : Thread nD τ) (owedAfter c 155) (insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) (W))))))) -∗ Q r))
      ⊢ wp frame (wpE (defs₀ (F := F)) 𝒱₀ c none) Set.univ (k0_part135 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS0_2, AagS0_2, CagS0_2⟩, ⟨#IagS0_3, AagS0_3, CagS0_3⟩, ⟨#IagS0_4, AagS0_4, CagS0_4⟩, ⟨#IagS0_5, AagS0_5, CagS0_5⟩, ⟨#IagS0_6, AagS0_6, CagS0_6⟩, #Hlev, HO, Hk⟩
  have hmwagS0_2 := mayWait_end (F := F) c (.dma (semAt (arr agS) 0 2))
  have hmwagS0_3 := mayWait_end (F := F) c (.dma (semAt (arr agS) 0 3))
  have hmwagS0_4 := mayWait_end (F := F) c (.dma (semAt (arr agS) 0 4))
  have hmwagS0_5 := mayWait_end (F := F) c (.dma (semAt (arr agS) 0 5))
  have hmwagS0_6 := mayWait_end (F := F) c (.dma (semAt (arr agS) 0 6))
  sl_exec_parts
  sl_step
  iapply Hk
  isplitl [AagS0_2_pay1]; · iexact AagS0_2_pay1
  isplitl [AagS0_2]; · (isplitr; · iexact IagS0_2); iexact AagS0_2
  isplitl [AagS0_3_pay1]; · iexact AagS0_3_pay1
  isplitl [AagS0_3]; · (isplitr; · iexact IagS0_3); iexact AagS0_3
  isplitl [AagS0_4_pay1]; · iexact AagS0_4_pay1
  isplitl [AagS0_4]; · (isplitr; · iexact IagS0_4); iexact AagS0_4
  isplitl [AagS0_5_pay1]; · iexact AagS0_5_pay1
  isplitl [AagS0_5]; · (isplitr; · iexact IagS0_5); iexact AagS0_5
  isplitl [AagS0_6_pay1]; · iexact AagS0_6_pay1
  isplitl [AagS0_6]; · (isplitr; · iexact IagS0_6); iexact AagS0_6
  iexact HO

attribute [local sl_rounds] duties_dma amount_dma expect_dma pay_agS in
set_option maxHeartbeats 4000000 in
theorem part136_spec (c : Dev nD)  (W : Waits sig Unit) (Q : (PUnit) → sProp 𝕄) :
    iprop(recvRes m K agS c 0 7
      ∗ recvRes m K agS c 0 8
      ∗ recvRes m K agS c 0 9
      ∗ recvRes m K agS c 0 10
      ∗ recvRes m K agS c 0 11
      ∗ levAts L lv
      ∗ owes (c : Thread nD τ) (owedAfter c 155) W
      ∗ (∀ r, (((chunk outM c 0).view.loc (c : Thread nD τ) ↦[(chunk outM c 0).view.set]{shr 7} (chunk outM c 0).view.rep (reduced m c 0))
        ∗ (cellInv ER (sched m) (K (dmaCell c agS 0 7)) (dmaCell c agS 0 7) ∗ atPos ER (dmaCell c agS 0 7) 1 ∅ 0)
        ∗ ((chunk outM c 0).view.loc (c : Thread nD τ) ↦[(chunk outM c 0).view.set]{shr 8} (chunk outM c 0).view.rep (reduced m c 0))
        ∗ (cellInv ER (sched m) (K (dmaCell c agS 0 8)) (dmaCell c agS 0 8) ∗ atPos ER (dmaCell c agS 0 8) 1 ∅ 0)
        ∗ ((chunk outM c 0).view.loc (c : Thread nD τ) ↦[(chunk outM c 0).view.set]{shr 9} (chunk outM c 0).view.rep (reduced m c 0))
        ∗ (cellInv ER (sched m) (K (dmaCell c agS 0 9)) (dmaCell c agS 0 9) ∗ atPos ER (dmaCell c agS 0 9) 1 ∅ 0)
        ∗ ((chunk outM c 0).view.loc (c : Thread nD τ) ↦[(chunk outM c 0).view.set]{shr 10} (chunk outM c 0).view.rep (reduced m c 0))
        ∗ (cellInv ER (sched m) (K (dmaCell c agS 0 10)) (dmaCell c agS 0 10) ∗ atPos ER (dmaCell c agS 0 10) 1 ∅ 0)
        ∗ ((chunk outM c 0).view.loc (c : Thread nD τ) ↦[(chunk outM c 0).view.set]{shr 11} (chunk outM c 0).view.rep (reduced m c 0))
        ∗ (cellInv ER (sched m) (K (dmaCell c agS 0 11)) (dmaCell c agS 0 11) ∗ atPos ER (dmaCell c agS 0 11) 1 ∅ 0)
        ∗ owes (c : Thread nD τ) (owedAfter c 155) (insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) (W))))))) -∗ Q r))
      ⊢ wp frame (wpE (defs₀ (F := F)) 𝒱₀ c none) Set.univ (k0_part136 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS0_7, AagS0_7, CagS0_7⟩, ⟨#IagS0_8, AagS0_8, CagS0_8⟩, ⟨#IagS0_9, AagS0_9, CagS0_9⟩, ⟨#IagS0_10, AagS0_10, CagS0_10⟩, ⟨#IagS0_11, AagS0_11, CagS0_11⟩, #Hlev, HO, Hk⟩
  have hmwagS0_7 := mayWait_end (F := F) c (.dma (semAt (arr agS) 0 7))
  have hmwagS0_8 := mayWait_end (F := F) c (.dma (semAt (arr agS) 0 8))
  have hmwagS0_9 := mayWait_end (F := F) c (.dma (semAt (arr agS) 0 9))
  have hmwagS0_10 := mayWait_end (F := F) c (.dma (semAt (arr agS) 0 10))
  have hmwagS0_11 := mayWait_end (F := F) c (.dma (semAt (arr agS) 0 11))
  sl_exec_parts
  sl_step
  iapply Hk
  isplitl [AagS0_7_pay1]; · iexact AagS0_7_pay1
  isplitl [AagS0_7]; · (isplitr; · iexact IagS0_7); iexact AagS0_7
  isplitl [AagS0_8_pay1]; · iexact AagS0_8_pay1
  isplitl [AagS0_8]; · (isplitr; · iexact IagS0_8); iexact AagS0_8
  isplitl [AagS0_9_pay1]; · iexact AagS0_9_pay1
  isplitl [AagS0_9]; · (isplitr; · iexact IagS0_9); iexact AagS0_9
  isplitl [AagS0_10_pay1]; · iexact AagS0_10_pay1
  isplitl [AagS0_10]; · (isplitr; · iexact IagS0_10); iexact AagS0_10
  isplitl [AagS0_11_pay1]; · iexact AagS0_11_pay1
  isplitl [AagS0_11]; · (isplitr; · iexact IagS0_11); iexact AagS0_11
  iexact HO

attribute [local sl_rounds] duties_dma amount_dma expect_dma pay_agS in
set_option maxHeartbeats 4000000 in
theorem part137_spec (c : Dev nD)  (W : Waits sig Unit) (Q : (PUnit) → sProp 𝕄) :
    iprop(recvRes m K agS c 0 12
      ∗ recvRes m K agS c 0 13
      ∗ recvRes m K agS c 0 14
      ∗ recvRes m K agS c 0 15
      ∗ recvRes m K agS c 0 16
      ∗ levAts L lv
      ∗ owes (c : Thread nD τ) (owedAfter c 155) W
      ∗ (∀ r, (((chunk outM c 0).view.loc (c : Thread nD τ) ↦[(chunk outM c 0).view.set]{shr 12} (chunk outM c 0).view.rep (reduced m c 0))
        ∗ (cellInv ER (sched m) (K (dmaCell c agS 0 12)) (dmaCell c agS 0 12) ∗ atPos ER (dmaCell c agS 0 12) 1 ∅ 0)
        ∗ ((chunk outM c 0).view.loc (c : Thread nD τ) ↦[(chunk outM c 0).view.set]{shr 13} (chunk outM c 0).view.rep (reduced m c 0))
        ∗ (cellInv ER (sched m) (K (dmaCell c agS 0 13)) (dmaCell c agS 0 13) ∗ atPos ER (dmaCell c agS 0 13) 1 ∅ 0)
        ∗ ((chunk outM c 0).view.loc (c : Thread nD τ) ↦[(chunk outM c 0).view.set]{shr 14} (chunk outM c 0).view.rep (reduced m c 0))
        ∗ (cellInv ER (sched m) (K (dmaCell c agS 0 14)) (dmaCell c agS 0 14) ∗ atPos ER (dmaCell c agS 0 14) 1 ∅ 0)
        ∗ ((chunk outM c 0).view.loc (c : Thread nD τ) ↦[(chunk outM c 0).view.set]{shr 15} (chunk outM c 0).view.rep (reduced m c 0))
        ∗ (cellInv ER (sched m) (K (dmaCell c agS 0 15)) (dmaCell c agS 0 15) ∗ atPos ER (dmaCell c agS 0 15) 1 ∅ 0)
        ∗ ((chunk outM c 0).view.loc (c : Thread nD τ) ↦[(chunk outM c 0).view.set]{shr 16} (chunk outM c 0).view.rep (reduced m c 0))
        ∗ (cellInv ER (sched m) (K (dmaCell c agS 0 16)) (dmaCell c agS 0 16) ∗ atPos ER (dmaCell c agS 0 16) 1 ∅ 0)
        ∗ owes (c : Thread nD τ) (owedAfter c 155) (insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) (W))))))) -∗ Q r))
      ⊢ wp frame (wpE (defs₀ (F := F)) 𝒱₀ c none) Set.univ (k0_part137 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS0_12, AagS0_12, CagS0_12⟩, ⟨#IagS0_13, AagS0_13, CagS0_13⟩, ⟨#IagS0_14, AagS0_14, CagS0_14⟩, ⟨#IagS0_15, AagS0_15, CagS0_15⟩, ⟨#IagS0_16, AagS0_16, CagS0_16⟩, #Hlev, HO, Hk⟩
  have hmwagS0_12 := mayWait_end (F := F) c (.dma (semAt (arr agS) 0 12))
  have hmwagS0_13 := mayWait_end (F := F) c (.dma (semAt (arr agS) 0 13))
  have hmwagS0_14 := mayWait_end (F := F) c (.dma (semAt (arr agS) 0 14))
  have hmwagS0_15 := mayWait_end (F := F) c (.dma (semAt (arr agS) 0 15))
  have hmwagS0_16 := mayWait_end (F := F) c (.dma (semAt (arr agS) 0 16))
  sl_exec_parts
  sl_step
  iapply Hk
  isplitl [AagS0_12_pay1]; · iexact AagS0_12_pay1
  isplitl [AagS0_12]; · (isplitr; · iexact IagS0_12); iexact AagS0_12
  isplitl [AagS0_13_pay1]; · iexact AagS0_13_pay1
  isplitl [AagS0_13]; · (isplitr; · iexact IagS0_13); iexact AagS0_13
  isplitl [AagS0_14_pay1]; · iexact AagS0_14_pay1
  isplitl [AagS0_14]; · (isplitr; · iexact IagS0_14); iexact AagS0_14
  isplitl [AagS0_15_pay1]; · iexact AagS0_15_pay1
  isplitl [AagS0_15]; · (isplitr; · iexact IagS0_15); iexact AagS0_15
  isplitl [AagS0_16_pay1]; · iexact AagS0_16_pay1
  isplitl [AagS0_16]; · (isplitr; · iexact IagS0_16); iexact AagS0_16
  iexact HO

attribute [local sl_rounds] duties_dma amount_dma expect_dma pay_agS in
set_option maxHeartbeats 4000000 in
theorem part138_spec (c : Dev nD)  (W : Waits sig Unit) (Q : (PUnit) → sProp 𝕄) :
    iprop(recvRes m K agS c 0 17
      ∗ recvRes m K agS c 0 18
      ∗ recvRes m K agS c 0 19
      ∗ recvRes m K agS c 0 20
      ∗ recvRes m K agS c 0 21
      ∗ levAts L lv
      ∗ owes (c : Thread nD τ) (owedAfter c 155) W
      ∗ (∀ r, (((chunk outM c 0).view.loc (c : Thread nD τ) ↦[(chunk outM c 0).view.set]{shr 17} (chunk outM c 0).view.rep (reduced m c 0))
        ∗ (cellInv ER (sched m) (K (dmaCell c agS 0 17)) (dmaCell c agS 0 17) ∗ atPos ER (dmaCell c agS 0 17) 1 ∅ 0)
        ∗ ((chunk outM c 0).view.loc (c : Thread nD τ) ↦[(chunk outM c 0).view.set]{shr 18} (chunk outM c 0).view.rep (reduced m c 0))
        ∗ (cellInv ER (sched m) (K (dmaCell c agS 0 18)) (dmaCell c agS 0 18) ∗ atPos ER (dmaCell c agS 0 18) 1 ∅ 0)
        ∗ ((chunk outM c 0).view.loc (c : Thread nD τ) ↦[(chunk outM c 0).view.set]{shr 19} (chunk outM c 0).view.rep (reduced m c 0))
        ∗ (cellInv ER (sched m) (K (dmaCell c agS 0 19)) (dmaCell c agS 0 19) ∗ atPos ER (dmaCell c agS 0 19) 1 ∅ 0)
        ∗ ((chunk outM c 0).view.loc (c : Thread nD τ) ↦[(chunk outM c 0).view.set]{shr 20} (chunk outM c 0).view.rep (reduced m c 0))
        ∗ (cellInv ER (sched m) (K (dmaCell c agS 0 20)) (dmaCell c agS 0 20) ∗ atPos ER (dmaCell c agS 0 20) 1 ∅ 0)
        ∗ ((chunk outM c 0).view.loc (c : Thread nD τ) ↦[(chunk outM c 0).view.set]{shr 21} (chunk outM c 0).view.rep (reduced m c 0))
        ∗ (cellInv ER (sched m) (K (dmaCell c agS 0 21)) (dmaCell c agS 0 21) ∗ atPos ER (dmaCell c agS 0 21) 1 ∅ 0)
        ∗ owes (c : Thread nD τ) (owedAfter c 155) (insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) (W))))))) -∗ Q r))
      ⊢ wp frame (wpE (defs₀ (F := F)) 𝒱₀ c none) Set.univ (k0_part138 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS0_17, AagS0_17, CagS0_17⟩, ⟨#IagS0_18, AagS0_18, CagS0_18⟩, ⟨#IagS0_19, AagS0_19, CagS0_19⟩, ⟨#IagS0_20, AagS0_20, CagS0_20⟩, ⟨#IagS0_21, AagS0_21, CagS0_21⟩, #Hlev, HO, Hk⟩
  have hmwagS0_17 := mayWait_end (F := F) c (.dma (semAt (arr agS) 0 17))
  have hmwagS0_18 := mayWait_end (F := F) c (.dma (semAt (arr agS) 0 18))
  have hmwagS0_19 := mayWait_end (F := F) c (.dma (semAt (arr agS) 0 19))
  have hmwagS0_20 := mayWait_end (F := F) c (.dma (semAt (arr agS) 0 20))
  have hmwagS0_21 := mayWait_end (F := F) c (.dma (semAt (arr agS) 0 21))
  sl_exec_parts
  sl_step
  iapply Hk
  isplitl [AagS0_17_pay1]; · iexact AagS0_17_pay1
  isplitl [AagS0_17]; · (isplitr; · iexact IagS0_17); iexact AagS0_17
  isplitl [AagS0_18_pay1]; · iexact AagS0_18_pay1
  isplitl [AagS0_18]; · (isplitr; · iexact IagS0_18); iexact AagS0_18
  isplitl [AagS0_19_pay1]; · iexact AagS0_19_pay1
  isplitl [AagS0_19]; · (isplitr; · iexact IagS0_19); iexact AagS0_19
  isplitl [AagS0_20_pay1]; · iexact AagS0_20_pay1
  isplitl [AagS0_20]; · (isplitr; · iexact IagS0_20); iexact AagS0_20
  isplitl [AagS0_21_pay1]; · iexact AagS0_21_pay1
  isplitl [AagS0_21]; · (isplitr; · iexact IagS0_21); iexact AagS0_21
  iexact HO

attribute [local sl_rounds] duties_dma amount_dma expect_dma pay_agS in
set_option maxHeartbeats 4000000 in
theorem part139_spec (c : Dev nD)  (W : Waits sig Unit) (Q : (PUnit) → sProp 𝕄) :
    iprop(recvRes m K agS c 0 22
      ∗ recvRes m K agS c 0 23
      ∗ recvRes m K agS c 0 24
      ∗ recvRes m K agS c 0 25
      ∗ recvRes m K agS c 0 26
      ∗ levAts L lv
      ∗ owes (c : Thread nD τ) (owedAfter c 155) W
      ∗ (∀ r, (((chunk outM c 0).view.loc (c : Thread nD τ) ↦[(chunk outM c 0).view.set]{shr 22} (chunk outM c 0).view.rep (reduced m c 0))
        ∗ (cellInv ER (sched m) (K (dmaCell c agS 0 22)) (dmaCell c agS 0 22) ∗ atPos ER (dmaCell c agS 0 22) 1 ∅ 0)
        ∗ ((chunk outM c 0).view.loc (c : Thread nD τ) ↦[(chunk outM c 0).view.set]{shr 23} (chunk outM c 0).view.rep (reduced m c 0))
        ∗ (cellInv ER (sched m) (K (dmaCell c agS 0 23)) (dmaCell c agS 0 23) ∗ atPos ER (dmaCell c agS 0 23) 1 ∅ 0)
        ∗ ((chunk outM c 0).view.loc (c : Thread nD τ) ↦[(chunk outM c 0).view.set]{shr 24} (chunk outM c 0).view.rep (reduced m c 0))
        ∗ (cellInv ER (sched m) (K (dmaCell c agS 0 24)) (dmaCell c agS 0 24) ∗ atPos ER (dmaCell c agS 0 24) 1 ∅ 0)
        ∗ ((chunk outM c 0).view.loc (c : Thread nD τ) ↦[(chunk outM c 0).view.set]{shr 25} (chunk outM c 0).view.rep (reduced m c 0))
        ∗ (cellInv ER (sched m) (K (dmaCell c agS 0 25)) (dmaCell c agS 0 25) ∗ atPos ER (dmaCell c agS 0 25) 1 ∅ 0)
        ∗ ((chunk outM c 0).view.loc (c : Thread nD τ) ↦[(chunk outM c 0).view.set]{shr 26} (chunk outM c 0).view.rep (reduced m c 0))
        ∗ (cellInv ER (sched m) (K (dmaCell c agS 0 26)) (dmaCell c agS 0 26) ∗ atPos ER (dmaCell c agS 0 26) 1 ∅ 0)
        ∗ owes (c : Thread nD τ) (owedAfter c 155) (insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) (W))))))) -∗ Q r))
      ⊢ wp frame (wpE (defs₀ (F := F)) 𝒱₀ c none) Set.univ (k0_part139 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS0_22, AagS0_22, CagS0_22⟩, ⟨#IagS0_23, AagS0_23, CagS0_23⟩, ⟨#IagS0_24, AagS0_24, CagS0_24⟩, ⟨#IagS0_25, AagS0_25, CagS0_25⟩, ⟨#IagS0_26, AagS0_26, CagS0_26⟩, #Hlev, HO, Hk⟩
  have hmwagS0_22 := mayWait_end (F := F) c (.dma (semAt (arr agS) 0 22))
  have hmwagS0_23 := mayWait_end (F := F) c (.dma (semAt (arr agS) 0 23))
  have hmwagS0_24 := mayWait_end (F := F) c (.dma (semAt (arr agS) 0 24))
  have hmwagS0_25 := mayWait_end (F := F) c (.dma (semAt (arr agS) 0 25))
  have hmwagS0_26 := mayWait_end (F := F) c (.dma (semAt (arr agS) 0 26))
  sl_exec_parts
  sl_step
  iapply Hk
  isplitl [AagS0_22_pay1]; · iexact AagS0_22_pay1
  isplitl [AagS0_22]; · (isplitr; · iexact IagS0_22); iexact AagS0_22
  isplitl [AagS0_23_pay1]; · iexact AagS0_23_pay1
  isplitl [AagS0_23]; · (isplitr; · iexact IagS0_23); iexact AagS0_23
  isplitl [AagS0_24_pay1]; · iexact AagS0_24_pay1
  isplitl [AagS0_24]; · (isplitr; · iexact IagS0_24); iexact AagS0_24
  isplitl [AagS0_25_pay1]; · iexact AagS0_25_pay1
  isplitl [AagS0_25]; · (isplitr; · iexact IagS0_25); iexact AagS0_25
  isplitl [AagS0_26_pay1]; · iexact AagS0_26_pay1
  isplitl [AagS0_26]; · (isplitr; · iexact IagS0_26); iexact AagS0_26
  iexact HO

attribute [local sl_rounds] duties_dma amount_dma expect_dma pay_agS in
set_option maxHeartbeats 4000000 in
theorem part140_spec (c : Dev nD)  (W : Waits sig Unit) (Q : (PUnit) → sProp 𝕄) :
    iprop(recvRes m K agS c 0 27
      ∗ recvRes m K agS c 0 28
      ∗ recvRes m K agS c 0 29
      ∗ recvRes m K agS c 0 30
      ∗ recvRes m K agS c 0 31
      ∗ levAts L lv
      ∗ owes (c : Thread nD τ) (owedAfter c 155) W
      ∗ (∀ r, (((chunk outM c 0).view.loc (c : Thread nD τ) ↦[(chunk outM c 0).view.set]{shr 27} (chunk outM c 0).view.rep (reduced m c 0))
        ∗ (cellInv ER (sched m) (K (dmaCell c agS 0 27)) (dmaCell c agS 0 27) ∗ atPos ER (dmaCell c agS 0 27) 1 ∅ 0)
        ∗ ((chunk outM c 0).view.loc (c : Thread nD τ) ↦[(chunk outM c 0).view.set]{shr 28} (chunk outM c 0).view.rep (reduced m c 0))
        ∗ (cellInv ER (sched m) (K (dmaCell c agS 0 28)) (dmaCell c agS 0 28) ∗ atPos ER (dmaCell c agS 0 28) 1 ∅ 0)
        ∗ ((chunk outM c 0).view.loc (c : Thread nD τ) ↦[(chunk outM c 0).view.set]{shr 29} (chunk outM c 0).view.rep (reduced m c 0))
        ∗ (cellInv ER (sched m) (K (dmaCell c agS 0 29)) (dmaCell c agS 0 29) ∗ atPos ER (dmaCell c agS 0 29) 1 ∅ 0)
        ∗ ((chunk outM c 0).view.loc (c : Thread nD τ) ↦[(chunk outM c 0).view.set]{shr 30} (chunk outM c 0).view.rep (reduced m c 0))
        ∗ (cellInv ER (sched m) (K (dmaCell c agS 0 30)) (dmaCell c agS 0 30) ∗ atPos ER (dmaCell c agS 0 30) 1 ∅ 0)
        ∗ ((chunk outM c 0).view.loc (c : Thread nD τ) ↦[(chunk outM c 0).view.set]{shr 31} (chunk outM c 0).view.rep (reduced m c 0))
        ∗ (cellInv ER (sched m) (K (dmaCell c agS 0 31)) (dmaCell c agS 0 31) ∗ atPos ER (dmaCell c agS 0 31) 1 ∅ 0)
        ∗ owes (c : Thread nD τ) (owedAfter c 155) (insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) (W))))))) -∗ Q r))
      ⊢ wp frame (wpE (defs₀ (F := F)) 𝒱₀ c none) Set.univ (k0_part140 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS0_27, AagS0_27, CagS0_27⟩, ⟨#IagS0_28, AagS0_28, CagS0_28⟩, ⟨#IagS0_29, AagS0_29, CagS0_29⟩, ⟨#IagS0_30, AagS0_30, CagS0_30⟩, ⟨#IagS0_31, AagS0_31, CagS0_31⟩, #Hlev, HO, Hk⟩
  have hmwagS0_27 := mayWait_end (F := F) c (.dma (semAt (arr agS) 0 27))
  have hmwagS0_28 := mayWait_end (F := F) c (.dma (semAt (arr agS) 0 28))
  have hmwagS0_29 := mayWait_end (F := F) c (.dma (semAt (arr agS) 0 29))
  have hmwagS0_30 := mayWait_end (F := F) c (.dma (semAt (arr agS) 0 30))
  have hmwagS0_31 := mayWait_end (F := F) c (.dma (semAt (arr agS) 0 31))
  sl_exec_parts
  sl_step
  iapply Hk
  isplitl [AagS0_27_pay1]; · iexact AagS0_27_pay1
  isplitl [AagS0_27]; · (isplitr; · iexact IagS0_27); iexact AagS0_27
  isplitl [AagS0_28_pay1]; · iexact AagS0_28_pay1
  isplitl [AagS0_28]; · (isplitr; · iexact IagS0_28); iexact AagS0_28
  isplitl [AagS0_29_pay1]; · iexact AagS0_29_pay1
  isplitl [AagS0_29]; · (isplitr; · iexact IagS0_29); iexact AagS0_29
  isplitl [AagS0_30_pay1]; · iexact AagS0_30_pay1
  isplitl [AagS0_30]; · (isplitr; · iexact IagS0_30); iexact AagS0_30
  isplitl [AagS0_31_pay1]; · iexact AagS0_31_pay1
  isplitl [AagS0_31]; · (isplitr; · iexact IagS0_31); iexact AagS0_31
  iexact HO

attribute [local sl_rounds] duties_dma amount_dma expect_dma pay_agS in
set_option maxHeartbeats 4000000 in
theorem part141_spec (c : Dev nD)  (W : Waits sig Unit) (Q : (PUnit) → sProp 𝕄) :
    iprop(recvRes m K agS c 1 1
      ∗ recvRes m K agS c 1 2
      ∗ recvRes m K agS c 1 3
      ∗ recvRes m K agS c 1 4
      ∗ recvRes m K agS c 1 5
      ∗ levAts L lv
      ∗ owes (c : Thread nD τ) (owedAfter c 155) W
      ∗ (∀ r, (((chunk outM c 1).view.loc (c : Thread nD τ) ↦[(chunk outM c 1).view.set]{shr 1} (chunk outM c 1).view.rep (reduced m c 1))
        ∗ (cellInv ER (sched m) (K (dmaCell c agS 1 1)) (dmaCell c agS 1 1) ∗ atPos ER (dmaCell c agS 1 1) 1 ∅ 0)
        ∗ ((chunk outM c 1).view.loc (c : Thread nD τ) ↦[(chunk outM c 1).view.set]{shr 2} (chunk outM c 1).view.rep (reduced m c 1))
        ∗ (cellInv ER (sched m) (K (dmaCell c agS 1 2)) (dmaCell c agS 1 2) ∗ atPos ER (dmaCell c agS 1 2) 1 ∅ 0)
        ∗ ((chunk outM c 1).view.loc (c : Thread nD τ) ↦[(chunk outM c 1).view.set]{shr 3} (chunk outM c 1).view.rep (reduced m c 1))
        ∗ (cellInv ER (sched m) (K (dmaCell c agS 1 3)) (dmaCell c agS 1 3) ∗ atPos ER (dmaCell c agS 1 3) 1 ∅ 0)
        ∗ ((chunk outM c 1).view.loc (c : Thread nD τ) ↦[(chunk outM c 1).view.set]{shr 4} (chunk outM c 1).view.rep (reduced m c 1))
        ∗ (cellInv ER (sched m) (K (dmaCell c agS 1 4)) (dmaCell c agS 1 4) ∗ atPos ER (dmaCell c agS 1 4) 1 ∅ 0)
        ∗ ((chunk outM c 1).view.loc (c : Thread nD τ) ↦[(chunk outM c 1).view.set]{shr 5} (chunk outM c 1).view.rep (reduced m c 1))
        ∗ (cellInv ER (sched m) (K (dmaCell c agS 1 5)) (dmaCell c agS 1 5) ∗ atPos ER (dmaCell c agS 1 5) 1 ∅ 0)
        ∗ owes (c : Thread nD τ) (owedAfter c 155) (insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) (W))))))) -∗ Q r))
      ⊢ wp frame (wpE (defs₀ (F := F)) 𝒱₀ c none) Set.univ (k0_part141 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS1_1, AagS1_1, CagS1_1⟩, ⟨#IagS1_2, AagS1_2, CagS1_2⟩, ⟨#IagS1_3, AagS1_3, CagS1_3⟩, ⟨#IagS1_4, AagS1_4, CagS1_4⟩, ⟨#IagS1_5, AagS1_5, CagS1_5⟩, #Hlev, HO, Hk⟩
  have hmwagS1_1 := mayWait_end (F := F) c (.dma (semAt (arr agS) 1 1))
  have hmwagS1_2 := mayWait_end (F := F) c (.dma (semAt (arr agS) 1 2))
  have hmwagS1_3 := mayWait_end (F := F) c (.dma (semAt (arr agS) 1 3))
  have hmwagS1_4 := mayWait_end (F := F) c (.dma (semAt (arr agS) 1 4))
  have hmwagS1_5 := mayWait_end (F := F) c (.dma (semAt (arr agS) 1 5))
  sl_exec_parts
  sl_step
  iapply Hk
  isplitl [AagS1_1_pay1]; · iexact AagS1_1_pay1
  isplitl [AagS1_1]; · (isplitr; · iexact IagS1_1); iexact AagS1_1
  isplitl [AagS1_2_pay1]; · iexact AagS1_2_pay1
  isplitl [AagS1_2]; · (isplitr; · iexact IagS1_2); iexact AagS1_2
  isplitl [AagS1_3_pay1]; · iexact AagS1_3_pay1
  isplitl [AagS1_3]; · (isplitr; · iexact IagS1_3); iexact AagS1_3
  isplitl [AagS1_4_pay1]; · iexact AagS1_4_pay1
  isplitl [AagS1_4]; · (isplitr; · iexact IagS1_4); iexact AagS1_4
  isplitl [AagS1_5_pay1]; · iexact AagS1_5_pay1
  isplitl [AagS1_5]; · (isplitr; · iexact IagS1_5); iexact AagS1_5
  iexact HO

attribute [local sl_rounds] duties_dma amount_dma expect_dma pay_agS in
set_option maxHeartbeats 4000000 in
theorem part142_spec (c : Dev nD)  (W : Waits sig Unit) (Q : (PUnit) → sProp 𝕄) :
    iprop(recvRes m K agS c 1 6
      ∗ recvRes m K agS c 1 7
      ∗ recvRes m K agS c 1 8
      ∗ recvRes m K agS c 1 9
      ∗ recvRes m K agS c 1 10
      ∗ levAts L lv
      ∗ owes (c : Thread nD τ) (owedAfter c 155) W
      ∗ (∀ r, (((chunk outM c 1).view.loc (c : Thread nD τ) ↦[(chunk outM c 1).view.set]{shr 6} (chunk outM c 1).view.rep (reduced m c 1))
        ∗ (cellInv ER (sched m) (K (dmaCell c agS 1 6)) (dmaCell c agS 1 6) ∗ atPos ER (dmaCell c agS 1 6) 1 ∅ 0)
        ∗ ((chunk outM c 1).view.loc (c : Thread nD τ) ↦[(chunk outM c 1).view.set]{shr 7} (chunk outM c 1).view.rep (reduced m c 1))
        ∗ (cellInv ER (sched m) (K (dmaCell c agS 1 7)) (dmaCell c agS 1 7) ∗ atPos ER (dmaCell c agS 1 7) 1 ∅ 0)
        ∗ ((chunk outM c 1).view.loc (c : Thread nD τ) ↦[(chunk outM c 1).view.set]{shr 8} (chunk outM c 1).view.rep (reduced m c 1))
        ∗ (cellInv ER (sched m) (K (dmaCell c agS 1 8)) (dmaCell c agS 1 8) ∗ atPos ER (dmaCell c agS 1 8) 1 ∅ 0)
        ∗ ((chunk outM c 1).view.loc (c : Thread nD τ) ↦[(chunk outM c 1).view.set]{shr 9} (chunk outM c 1).view.rep (reduced m c 1))
        ∗ (cellInv ER (sched m) (K (dmaCell c agS 1 9)) (dmaCell c agS 1 9) ∗ atPos ER (dmaCell c agS 1 9) 1 ∅ 0)
        ∗ ((chunk outM c 1).view.loc (c : Thread nD τ) ↦[(chunk outM c 1).view.set]{shr 10} (chunk outM c 1).view.rep (reduced m c 1))
        ∗ (cellInv ER (sched m) (K (dmaCell c agS 1 10)) (dmaCell c agS 1 10) ∗ atPos ER (dmaCell c agS 1 10) 1 ∅ 0)
        ∗ owes (c : Thread nD τ) (owedAfter c 155) (insert (SemLoc.dma (semAt (arr agS) 1 10), ()) (insert (SemLoc.dma (semAt (arr agS) 1 9), ()) (insert (SemLoc.dma (semAt (arr agS) 1 8), ()) (insert (SemLoc.dma (semAt (arr agS) 1 7), ()) (insert (SemLoc.dma (semAt (arr agS) 1 6), ()) (W))))))) -∗ Q r))
      ⊢ wp frame (wpE (defs₀ (F := F)) 𝒱₀ c none) Set.univ (k0_part142 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS1_6, AagS1_6, CagS1_6⟩, ⟨#IagS1_7, AagS1_7, CagS1_7⟩, ⟨#IagS1_8, AagS1_8, CagS1_8⟩, ⟨#IagS1_9, AagS1_9, CagS1_9⟩, ⟨#IagS1_10, AagS1_10, CagS1_10⟩, #Hlev, HO, Hk⟩
  have hmwagS1_6 := mayWait_end (F := F) c (.dma (semAt (arr agS) 1 6))
  have hmwagS1_7 := mayWait_end (F := F) c (.dma (semAt (arr agS) 1 7))
  have hmwagS1_8 := mayWait_end (F := F) c (.dma (semAt (arr agS) 1 8))
  have hmwagS1_9 := mayWait_end (F := F) c (.dma (semAt (arr agS) 1 9))
  have hmwagS1_10 := mayWait_end (F := F) c (.dma (semAt (arr agS) 1 10))
  sl_exec_parts
  sl_step
  iapply Hk
  isplitl [AagS1_6_pay1]; · iexact AagS1_6_pay1
  isplitl [AagS1_6]; · (isplitr; · iexact IagS1_6); iexact AagS1_6
  isplitl [AagS1_7_pay1]; · iexact AagS1_7_pay1
  isplitl [AagS1_7]; · (isplitr; · iexact IagS1_7); iexact AagS1_7
  isplitl [AagS1_8_pay1]; · iexact AagS1_8_pay1
  isplitl [AagS1_8]; · (isplitr; · iexact IagS1_8); iexact AagS1_8
  isplitl [AagS1_9_pay1]; · iexact AagS1_9_pay1
  isplitl [AagS1_9]; · (isplitr; · iexact IagS1_9); iexact AagS1_9
  isplitl [AagS1_10_pay1]; · iexact AagS1_10_pay1
  isplitl [AagS1_10]; · (isplitr; · iexact IagS1_10); iexact AagS1_10
  iexact HO

attribute [local sl_rounds] duties_dma amount_dma expect_dma pay_agS in
set_option maxHeartbeats 4000000 in
theorem part143_spec (c : Dev nD)  (W : Waits sig Unit) (Q : (PUnit) → sProp 𝕄) :
    iprop(recvRes m K agS c 1 11
      ∗ recvRes m K agS c 1 12
      ∗ recvRes m K agS c 1 13
      ∗ recvRes m K agS c 1 14
      ∗ recvRes m K agS c 1 15
      ∗ levAts L lv
      ∗ owes (c : Thread nD τ) (owedAfter c 155) W
      ∗ (∀ r, (((chunk outM c 1).view.loc (c : Thread nD τ) ↦[(chunk outM c 1).view.set]{shr 11} (chunk outM c 1).view.rep (reduced m c 1))
        ∗ (cellInv ER (sched m) (K (dmaCell c agS 1 11)) (dmaCell c agS 1 11) ∗ atPos ER (dmaCell c agS 1 11) 1 ∅ 0)
        ∗ ((chunk outM c 1).view.loc (c : Thread nD τ) ↦[(chunk outM c 1).view.set]{shr 12} (chunk outM c 1).view.rep (reduced m c 1))
        ∗ (cellInv ER (sched m) (K (dmaCell c agS 1 12)) (dmaCell c agS 1 12) ∗ atPos ER (dmaCell c agS 1 12) 1 ∅ 0)
        ∗ ((chunk outM c 1).view.loc (c : Thread nD τ) ↦[(chunk outM c 1).view.set]{shr 13} (chunk outM c 1).view.rep (reduced m c 1))
        ∗ (cellInv ER (sched m) (K (dmaCell c agS 1 13)) (dmaCell c agS 1 13) ∗ atPos ER (dmaCell c agS 1 13) 1 ∅ 0)
        ∗ ((chunk outM c 1).view.loc (c : Thread nD τ) ↦[(chunk outM c 1).view.set]{shr 14} (chunk outM c 1).view.rep (reduced m c 1))
        ∗ (cellInv ER (sched m) (K (dmaCell c agS 1 14)) (dmaCell c agS 1 14) ∗ atPos ER (dmaCell c agS 1 14) 1 ∅ 0)
        ∗ ((chunk outM c 1).view.loc (c : Thread nD τ) ↦[(chunk outM c 1).view.set]{shr 15} (chunk outM c 1).view.rep (reduced m c 1))
        ∗ (cellInv ER (sched m) (K (dmaCell c agS 1 15)) (dmaCell c agS 1 15) ∗ atPos ER (dmaCell c agS 1 15) 1 ∅ 0)
        ∗ owes (c : Thread nD τ) (owedAfter c 155) (insert (SemLoc.dma (semAt (arr agS) 1 15), ()) (insert (SemLoc.dma (semAt (arr agS) 1 14), ()) (insert (SemLoc.dma (semAt (arr agS) 1 13), ()) (insert (SemLoc.dma (semAt (arr agS) 1 12), ()) (insert (SemLoc.dma (semAt (arr agS) 1 11), ()) (W))))))) -∗ Q r))
      ⊢ wp frame (wpE (defs₀ (F := F)) 𝒱₀ c none) Set.univ (k0_part143 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS1_11, AagS1_11, CagS1_11⟩, ⟨#IagS1_12, AagS1_12, CagS1_12⟩, ⟨#IagS1_13, AagS1_13, CagS1_13⟩, ⟨#IagS1_14, AagS1_14, CagS1_14⟩, ⟨#IagS1_15, AagS1_15, CagS1_15⟩, #Hlev, HO, Hk⟩
  have hmwagS1_11 := mayWait_end (F := F) c (.dma (semAt (arr agS) 1 11))
  have hmwagS1_12 := mayWait_end (F := F) c (.dma (semAt (arr agS) 1 12))
  have hmwagS1_13 := mayWait_end (F := F) c (.dma (semAt (arr agS) 1 13))
  have hmwagS1_14 := mayWait_end (F := F) c (.dma (semAt (arr agS) 1 14))
  have hmwagS1_15 := mayWait_end (F := F) c (.dma (semAt (arr agS) 1 15))
  sl_exec_parts
  sl_step
  iapply Hk
  isplitl [AagS1_11_pay1]; · iexact AagS1_11_pay1
  isplitl [AagS1_11]; · (isplitr; · iexact IagS1_11); iexact AagS1_11
  isplitl [AagS1_12_pay1]; · iexact AagS1_12_pay1
  isplitl [AagS1_12]; · (isplitr; · iexact IagS1_12); iexact AagS1_12
  isplitl [AagS1_13_pay1]; · iexact AagS1_13_pay1
  isplitl [AagS1_13]; · (isplitr; · iexact IagS1_13); iexact AagS1_13
  isplitl [AagS1_14_pay1]; · iexact AagS1_14_pay1
  isplitl [AagS1_14]; · (isplitr; · iexact IagS1_14); iexact AagS1_14
  isplitl [AagS1_15_pay1]; · iexact AagS1_15_pay1
  isplitl [AagS1_15]; · (isplitr; · iexact IagS1_15); iexact AagS1_15
  iexact HO

attribute [local sl_rounds] duties_dma amount_dma expect_dma pay_agS in
set_option maxHeartbeats 4000000 in
theorem part144_spec (c : Dev nD)  (W : Waits sig Unit) (Q : (PUnit) → sProp 𝕄) :
    iprop(recvRes m K agS c 1 16
      ∗ recvRes m K agS c 1 17
      ∗ recvRes m K agS c 1 18
      ∗ recvRes m K agS c 1 19
      ∗ recvRes m K agS c 1 20
      ∗ levAts L lv
      ∗ owes (c : Thread nD τ) (owedAfter c 155) W
      ∗ (∀ r, (((chunk outM c 1).view.loc (c : Thread nD τ) ↦[(chunk outM c 1).view.set]{shr 16} (chunk outM c 1).view.rep (reduced m c 1))
        ∗ (cellInv ER (sched m) (K (dmaCell c agS 1 16)) (dmaCell c agS 1 16) ∗ atPos ER (dmaCell c agS 1 16) 1 ∅ 0)
        ∗ ((chunk outM c 1).view.loc (c : Thread nD τ) ↦[(chunk outM c 1).view.set]{shr 17} (chunk outM c 1).view.rep (reduced m c 1))
        ∗ (cellInv ER (sched m) (K (dmaCell c agS 1 17)) (dmaCell c agS 1 17) ∗ atPos ER (dmaCell c agS 1 17) 1 ∅ 0)
        ∗ ((chunk outM c 1).view.loc (c : Thread nD τ) ↦[(chunk outM c 1).view.set]{shr 18} (chunk outM c 1).view.rep (reduced m c 1))
        ∗ (cellInv ER (sched m) (K (dmaCell c agS 1 18)) (dmaCell c agS 1 18) ∗ atPos ER (dmaCell c agS 1 18) 1 ∅ 0)
        ∗ ((chunk outM c 1).view.loc (c : Thread nD τ) ↦[(chunk outM c 1).view.set]{shr 19} (chunk outM c 1).view.rep (reduced m c 1))
        ∗ (cellInv ER (sched m) (K (dmaCell c agS 1 19)) (dmaCell c agS 1 19) ∗ atPos ER (dmaCell c agS 1 19) 1 ∅ 0)
        ∗ ((chunk outM c 1).view.loc (c : Thread nD τ) ↦[(chunk outM c 1).view.set]{shr 20} (chunk outM c 1).view.rep (reduced m c 1))
        ∗ (cellInv ER (sched m) (K (dmaCell c agS 1 20)) (dmaCell c agS 1 20) ∗ atPos ER (dmaCell c agS 1 20) 1 ∅ 0)
        ∗ owes (c : Thread nD τ) (owedAfter c 155) (insert (SemLoc.dma (semAt (arr agS) 1 20), ()) (insert (SemLoc.dma (semAt (arr agS) 1 19), ()) (insert (SemLoc.dma (semAt (arr agS) 1 18), ()) (insert (SemLoc.dma (semAt (arr agS) 1 17), ()) (insert (SemLoc.dma (semAt (arr agS) 1 16), ()) (W))))))) -∗ Q r))
      ⊢ wp frame (wpE (defs₀ (F := F)) 𝒱₀ c none) Set.univ (k0_part144 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS1_16, AagS1_16, CagS1_16⟩, ⟨#IagS1_17, AagS1_17, CagS1_17⟩, ⟨#IagS1_18, AagS1_18, CagS1_18⟩, ⟨#IagS1_19, AagS1_19, CagS1_19⟩, ⟨#IagS1_20, AagS1_20, CagS1_20⟩, #Hlev, HO, Hk⟩
  have hmwagS1_16 := mayWait_end (F := F) c (.dma (semAt (arr agS) 1 16))
  have hmwagS1_17 := mayWait_end (F := F) c (.dma (semAt (arr agS) 1 17))
  have hmwagS1_18 := mayWait_end (F := F) c (.dma (semAt (arr agS) 1 18))
  have hmwagS1_19 := mayWait_end (F := F) c (.dma (semAt (arr agS) 1 19))
  have hmwagS1_20 := mayWait_end (F := F) c (.dma (semAt (arr agS) 1 20))
  sl_exec_parts
  sl_step
  iapply Hk
  isplitl [AagS1_16_pay1]; · iexact AagS1_16_pay1
  isplitl [AagS1_16]; · (isplitr; · iexact IagS1_16); iexact AagS1_16
  isplitl [AagS1_17_pay1]; · iexact AagS1_17_pay1
  isplitl [AagS1_17]; · (isplitr; · iexact IagS1_17); iexact AagS1_17
  isplitl [AagS1_18_pay1]; · iexact AagS1_18_pay1
  isplitl [AagS1_18]; · (isplitr; · iexact IagS1_18); iexact AagS1_18
  isplitl [AagS1_19_pay1]; · iexact AagS1_19_pay1
  isplitl [AagS1_19]; · (isplitr; · iexact IagS1_19); iexact AagS1_19
  isplitl [AagS1_20_pay1]; · iexact AagS1_20_pay1
  isplitl [AagS1_20]; · (isplitr; · iexact IagS1_20); iexact AagS1_20
  iexact HO

attribute [local sl_rounds] duties_dma amount_dma expect_dma pay_agS in
set_option maxHeartbeats 4000000 in
theorem part145_spec (c : Dev nD)  (W : Waits sig Unit) (Q : (PUnit) → sProp 𝕄) :
    iprop(recvRes m K agS c 1 21
      ∗ recvRes m K agS c 1 22
      ∗ recvRes m K agS c 1 23
      ∗ recvRes m K agS c 1 24
      ∗ recvRes m K agS c 1 25
      ∗ levAts L lv
      ∗ owes (c : Thread nD τ) (owedAfter c 155) W
      ∗ (∀ r, (((chunk outM c 1).view.loc (c : Thread nD τ) ↦[(chunk outM c 1).view.set]{shr 21} (chunk outM c 1).view.rep (reduced m c 1))
        ∗ (cellInv ER (sched m) (K (dmaCell c agS 1 21)) (dmaCell c agS 1 21) ∗ atPos ER (dmaCell c agS 1 21) 1 ∅ 0)
        ∗ ((chunk outM c 1).view.loc (c : Thread nD τ) ↦[(chunk outM c 1).view.set]{shr 22} (chunk outM c 1).view.rep (reduced m c 1))
        ∗ (cellInv ER (sched m) (K (dmaCell c agS 1 22)) (dmaCell c agS 1 22) ∗ atPos ER (dmaCell c agS 1 22) 1 ∅ 0)
        ∗ ((chunk outM c 1).view.loc (c : Thread nD τ) ↦[(chunk outM c 1).view.set]{shr 23} (chunk outM c 1).view.rep (reduced m c 1))
        ∗ (cellInv ER (sched m) (K (dmaCell c agS 1 23)) (dmaCell c agS 1 23) ∗ atPos ER (dmaCell c agS 1 23) 1 ∅ 0)
        ∗ ((chunk outM c 1).view.loc (c : Thread nD τ) ↦[(chunk outM c 1).view.set]{shr 24} (chunk outM c 1).view.rep (reduced m c 1))
        ∗ (cellInv ER (sched m) (K (dmaCell c agS 1 24)) (dmaCell c agS 1 24) ∗ atPos ER (dmaCell c agS 1 24) 1 ∅ 0)
        ∗ ((chunk outM c 1).view.loc (c : Thread nD τ) ↦[(chunk outM c 1).view.set]{shr 25} (chunk outM c 1).view.rep (reduced m c 1))
        ∗ (cellInv ER (sched m) (K (dmaCell c agS 1 25)) (dmaCell c agS 1 25) ∗ atPos ER (dmaCell c agS 1 25) 1 ∅ 0)
        ∗ owes (c : Thread nD τ) (owedAfter c 155) (insert (SemLoc.dma (semAt (arr agS) 1 25), ()) (insert (SemLoc.dma (semAt (arr agS) 1 24), ()) (insert (SemLoc.dma (semAt (arr agS) 1 23), ()) (insert (SemLoc.dma (semAt (arr agS) 1 22), ()) (insert (SemLoc.dma (semAt (arr agS) 1 21), ()) (W))))))) -∗ Q r))
      ⊢ wp frame (wpE (defs₀ (F := F)) 𝒱₀ c none) Set.univ (k0_part145 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS1_21, AagS1_21, CagS1_21⟩, ⟨#IagS1_22, AagS1_22, CagS1_22⟩, ⟨#IagS1_23, AagS1_23, CagS1_23⟩, ⟨#IagS1_24, AagS1_24, CagS1_24⟩, ⟨#IagS1_25, AagS1_25, CagS1_25⟩, #Hlev, HO, Hk⟩
  have hmwagS1_21 := mayWait_end (F := F) c (.dma (semAt (arr agS) 1 21))
  have hmwagS1_22 := mayWait_end (F := F) c (.dma (semAt (arr agS) 1 22))
  have hmwagS1_23 := mayWait_end (F := F) c (.dma (semAt (arr agS) 1 23))
  have hmwagS1_24 := mayWait_end (F := F) c (.dma (semAt (arr agS) 1 24))
  have hmwagS1_25 := mayWait_end (F := F) c (.dma (semAt (arr agS) 1 25))
  sl_exec_parts
  sl_step
  iapply Hk
  isplitl [AagS1_21_pay1]; · iexact AagS1_21_pay1
  isplitl [AagS1_21]; · (isplitr; · iexact IagS1_21); iexact AagS1_21
  isplitl [AagS1_22_pay1]; · iexact AagS1_22_pay1
  isplitl [AagS1_22]; · (isplitr; · iexact IagS1_22); iexact AagS1_22
  isplitl [AagS1_23_pay1]; · iexact AagS1_23_pay1
  isplitl [AagS1_23]; · (isplitr; · iexact IagS1_23); iexact AagS1_23
  isplitl [AagS1_24_pay1]; · iexact AagS1_24_pay1
  isplitl [AagS1_24]; · (isplitr; · iexact IagS1_24); iexact AagS1_24
  isplitl [AagS1_25_pay1]; · iexact AagS1_25_pay1
  isplitl [AagS1_25]; · (isplitr; · iexact IagS1_25); iexact AagS1_25
  iexact HO

attribute [local sl_rounds] duties_dma amount_dma expect_dma pay_agS in
set_option maxHeartbeats 4000000 in
theorem part146_spec (c : Dev nD)  (W : Waits sig Unit) (Q : (PUnit) → sProp 𝕄) :
    iprop(recvRes m K agS c 1 26
      ∗ recvRes m K agS c 1 27
      ∗ recvRes m K agS c 1 28
      ∗ recvRes m K agS c 1 29
      ∗ recvRes m K agS c 1 30
      ∗ levAts L lv
      ∗ owes (c : Thread nD τ) (owedAfter c 155) W
      ∗ (∀ r, (((chunk outM c 1).view.loc (c : Thread nD τ) ↦[(chunk outM c 1).view.set]{shr 26} (chunk outM c 1).view.rep (reduced m c 1))
        ∗ (cellInv ER (sched m) (K (dmaCell c agS 1 26)) (dmaCell c agS 1 26) ∗ atPos ER (dmaCell c agS 1 26) 1 ∅ 0)
        ∗ ((chunk outM c 1).view.loc (c : Thread nD τ) ↦[(chunk outM c 1).view.set]{shr 27} (chunk outM c 1).view.rep (reduced m c 1))
        ∗ (cellInv ER (sched m) (K (dmaCell c agS 1 27)) (dmaCell c agS 1 27) ∗ atPos ER (dmaCell c agS 1 27) 1 ∅ 0)
        ∗ ((chunk outM c 1).view.loc (c : Thread nD τ) ↦[(chunk outM c 1).view.set]{shr 28} (chunk outM c 1).view.rep (reduced m c 1))
        ∗ (cellInv ER (sched m) (K (dmaCell c agS 1 28)) (dmaCell c agS 1 28) ∗ atPos ER (dmaCell c agS 1 28) 1 ∅ 0)
        ∗ ((chunk outM c 1).view.loc (c : Thread nD τ) ↦[(chunk outM c 1).view.set]{shr 29} (chunk outM c 1).view.rep (reduced m c 1))
        ∗ (cellInv ER (sched m) (K (dmaCell c agS 1 29)) (dmaCell c agS 1 29) ∗ atPos ER (dmaCell c agS 1 29) 1 ∅ 0)
        ∗ ((chunk outM c 1).view.loc (c : Thread nD τ) ↦[(chunk outM c 1).view.set]{shr 30} (chunk outM c 1).view.rep (reduced m c 1))
        ∗ (cellInv ER (sched m) (K (dmaCell c agS 1 30)) (dmaCell c agS 1 30) ∗ atPos ER (dmaCell c agS 1 30) 1 ∅ 0)
        ∗ owes (c : Thread nD τ) (owedAfter c 155) (insert (SemLoc.dma (semAt (arr agS) 1 30), ()) (insert (SemLoc.dma (semAt (arr agS) 1 29), ()) (insert (SemLoc.dma (semAt (arr agS) 1 28), ()) (insert (SemLoc.dma (semAt (arr agS) 1 27), ()) (insert (SemLoc.dma (semAt (arr agS) 1 26), ()) (W))))))) -∗ Q r))
      ⊢ wp frame (wpE (defs₀ (F := F)) 𝒱₀ c none) Set.univ (k0_part146 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q := by
  unfold recvRes
  iintro ⟨⟨#IagS1_26, AagS1_26, CagS1_26⟩, ⟨#IagS1_27, AagS1_27, CagS1_27⟩, ⟨#IagS1_28, AagS1_28, CagS1_28⟩, ⟨#IagS1_29, AagS1_29, CagS1_29⟩, ⟨#IagS1_30, AagS1_30, CagS1_30⟩, #Hlev, HO, Hk⟩
  have hmwagS1_26 := mayWait_end (F := F) c (.dma (semAt (arr agS) 1 26))
  have hmwagS1_27 := mayWait_end (F := F) c (.dma (semAt (arr agS) 1 27))
  have hmwagS1_28 := mayWait_end (F := F) c (.dma (semAt (arr agS) 1 28))
  have hmwagS1_29 := mayWait_end (F := F) c (.dma (semAt (arr agS) 1 29))
  have hmwagS1_30 := mayWait_end (F := F) c (.dma (semAt (arr agS) 1 30))
  sl_exec_parts
  sl_step
  iapply Hk
  isplitl [AagS1_26_pay1]; · iexact AagS1_26_pay1
  isplitl [AagS1_26]; · (isplitr; · iexact IagS1_26); iexact AagS1_26
  isplitl [AagS1_27_pay1]; · iexact AagS1_27_pay1
  isplitl [AagS1_27]; · (isplitr; · iexact IagS1_27); iexact AagS1_27
  isplitl [AagS1_28_pay1]; · iexact AagS1_28_pay1
  isplitl [AagS1_28]; · (isplitr; · iexact IagS1_28); iexact AagS1_28
  isplitl [AagS1_29_pay1]; · iexact AagS1_29_pay1
  isplitl [AagS1_29]; · (isplitr; · iexact IagS1_29); iexact AagS1_29
  isplitl [AagS1_30_pay1]; · iexact AagS1_30_pay1
  isplitl [AagS1_30]; · (isplitr; · iexact IagS1_30); iexact AagS1_30
  iexact HO

end Cert.Kernel.AllReduce

end
-- ==== Proof.Word.BodyRes.lean ====
import proofs.«900438_g7700000000000439_dist_gemm_ar_m1024_k1024_n1024_f32_gelu_v7x_i32_1_alg».proof.Proof.Word.Ghost

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-! ## The pieces of the buffers and the cells' closing facts, named, so that a statement over hundreds of them stays small -/

section Names
variable (c : Dev nD) (h : Fin 2) (k : Fin 32)

/-- Slot s of half h of this device's receive buffer, at the buffer's contents fb. -/
def slotAt (fb : Buf (Elt F) ((c : Thread nD τ).loc cc0_scratch2)) (s : Fin 32) : sProp 𝕄 :=
  ((slot h s).view.loc (c : Thread nD τ) ↦[(slot h s).view.set]{fullShare} fb)
/-- The gather rows of the device k places on, half h, in this device's gather buffer, at its contents fo. -/
def outAt (fo : Buf (Elt F) ((c : Thread nD τ).loc cc0_scratch1)) : sProp 𝕄 :=
  ((chunk outM (fwd c k) h).view.loc (c : Thread nD τ) ↦[(chunk outM (fwd c k) h).view.set]{fullShare} fo)
/-- The chunk of this device's partial product that goes to the device k places on. -/
def accSrcAt : sProp 𝕄 :=
  ((chunk accM (fwd c k) h).view.loc (c : Thread nD τ) ↦[(chunk accM (fwd c k) h).view.set]{fullShare} (chunk accM (fwd c k) h).view.rep (sent m c (fwd c k) h))
/-- The slot of offset k on the device k places on, at anything. -/
def peerSlotAt : sProp 𝕄 :=
  iprop(∃ f, ((slot h k).view.loc (fwd c k : Thread nD τ) ↦[(slot h k).view.set]{fullShare} f))
/-- This device's gather rows on the device k places on, at anything. -/
def peerOutAt : sProp 𝕄 :=
  iprop(∃ f, ((chunk outM c h).view.loc (fwd c k : Thread nD τ) ↦[(chunk outM c h).view.set]{fullShare} f))
/-- The share of this device's own reduced rows lent to the gather copy of offset k. -/
def outShareAt : sProp 𝕄 :=
  ((chunk outM c h).view.loc (c : Thread nD τ) ↦[(chunk outM c h).view.set]{shr k} (chunk outM c h).view.rep (reduced m c h))
/-- Slot k once the chunk of the device k places back has landed. -/
def gotRsR : sProp 𝕄 :=
  ((slot h k).view.loc (c : Thread nD τ) ↦[(slot h k).view.set]{fullShare} (slot h k).view.rep (sent m (bwd c k) c h))
/-- The gather rows of the device k places back once they have landed. -/
def gotAgR : sProp 𝕄 :=
  ((chunk outM (bwd c k) h).view.loc (c : Thread nD τ) ↦[(chunk outM (bwd c k) h).view.set]{fullShare} (chunk outM (bwd c k) h).view.rep (reduced m (bwd c k) h))
/-- Cell (p, h, k) past its round, ready to close. -/
def closedAt (p : Phase) : sProp 𝕄 :=
  iprop(cellInv ER (sched m) (K (dmaCell c p h k)) (dmaCell c p h k) ∗ atPos ER (dmaCell c p h k) 1 ∅ 0)

end Names

/-! ## Lists of resources: the first taken off, one put at the end -/

section Lists
variable {M : Type _} [URA M] {I : Type _}

theorem bigSepL_pop (Φ : I → sProp M) (i j : I) (l : List I) : bigSepL (i :: j :: l) Φ ⊢ iprop(Φ i ∗ bigSepL (j :: l) Φ) :=
  Entails.of_eq rfl

theorem bigSepL_one (Φ : I → sProp M) (i : I) : bigSepL [i] Φ ⊢ Φ i := Entails.of_eq rfl

theorem bigSepL_wrap (Φ : I → sProp M) (i : I) : Φ i ⊢ bigSepL [i] Φ := Entails.of_eq rfl

theorem bigSepL_snoc (Φ : I → sProp M) (l : List I) (a : I) (l' : List I) (h : l ++ [a] = l') :
    iprop(bigSepL l Φ ∗ Φ a) ⊢ bigSepL l' Φ := by
  subst h
  induction l with
  | nil => exact Entails.of_eq (equiv_iff.mp emp_sep)
  | cons i l ih =>
    rw [bigSepL_cons, List.cons_append, bigSepL_cons]
    show iprop((Φ i ∗ bigSepL l Φ) ∗ Φ a) ⊢ iprop(Φ i ∗ bigSepL (l ++ [a]) Φ)
    iintro ⟨⟨Hi, Hl⟩, Ha⟩
    isplitl [Hi]
    · iexact Hi
    iapply ih
    isplitl [Hl] <;> iassumption

end Lists

end Cert.Kernel.AllReduce

end
-- ==== Proof.Word.BodyTwins.lean ====
import proofs.«900438_g7700000000000439_dist_gemm_ar_m1024_k1024_n1024_f32_gelu_v7x_i32_1_alg».proof.Proof.Word.BodySignals
import proofs.«900438_g7700000000000439_dist_gemm_ar_m1024_k1024_n1024_f32_gelu_v7x_i32_1_alg».proof.Proof.Word.BodyCopiesA
import proofs.«900438_g7700000000000439_dist_gemm_ar_m1024_k1024_n1024_f32_gelu_v7x_i32_1_alg».proof.Proof.Word.BodyCopiesB
import proofs.«900438_g7700000000000439_dist_gemm_ar_m1024_k1024_n1024_f32_gelu_v7x_i32_1_alg».proof.Proof.Word.BodyCopiesC
import proofs.«900438_g7700000000000439_dist_gemm_ar_m1024_k1024_n1024_f32_gelu_v7x_i32_1_alg».proof.Proof.Word.BodyCopiesD
import proofs.«900438_g7700000000000439_dist_gemm_ar_m1024_k1024_n1024_f32_gelu_v7x_i32_1_alg».proof.Proof.Word.BodyWaitsA
import proofs.«900438_g7700000000000439_dist_gemm_ar_m1024_k1024_n1024_f32_gelu_v7x_i32_1_alg».proof.Proof.Word.BodyWaitsB
import proofs.«900438_g7700000000000439_dist_gemm_ar_m1024_k1024_n1024_f32_gelu_v7x_i32_1_alg».proof.Proof.Word.BodyWaitsC
import proofs.«900438_g7700000000000439_dist_gemm_ar_m1024_k1024_n1024_f32_gelu_v7x_i32_1_alg».proof.Proof.Word.BodyWaitsD
import proofs.«900438_g7700000000000439_dist_gemm_ar_m1024_k1024_n1024_f32_gelu_v7x_i32_1_alg».proof.Proof.Word.BodyWaitsE
import proofs.«900438_g7700000000000439_dist_gemm_ar_m1024_k1024_n1024_f32_gelu_v7x_i32_1_alg».proof.Proof.Word.OwedSteps
import proofs.«900438_g7700000000000439_dist_gemm_ar_m1024_k1024_n1024_f32_gelu_v7x_i32_1_alg».proof.Proof.Word.OwedWaits
import proofs.«900438_g7700000000000439_dist_gemm_ar_m1024_k1024_n1024_f32_gelu_v7x_i32_1_alg».proof.Proof.Word.BodyRes

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (K : GSem nD τ sig → ℕ)

/-! ## The parts' statements over the named resources

Each statement below is the part's own, its resources spelt through the names of the resource module: the same by unfolding. -/

theorem part1_spec' (c : Dev nD) (fo : Buf (Elt F) ((c : Thread nD τ).loc cc0_scratch1)) (fb : Buf (Elt F) ((c : Thread nD τ).loc cc0_scratch2)) (O : CellTallies nD τ sig Unit) (W : Waits sig Unit) (Q : (Σ' (d0 : Dev nD) (v2 : BitVec 32) (v3 : Sems sig S_) (v24 : BitVec 32), BitVec 32) → sProp 𝕄) :
    iprop(sigRes m K c 1
      ∗ slotAt c 0 fb (opp 1)
      ∗ slotAt c 1 fb (opp 1)
      ∗ outAt c 0 1 fo
      ∗ outAt c 1 1 fo
      ∗ sigRes m K c 2
      ∗ slotAt c 0 fb (opp 2)
      ∗ slotAt c 1 fb (opp 2)
      ∗ outAt c 0 2 fo
      ∗ outAt c 1 2 fo
      ∗ sigRes m K c 3
      ∗ slotAt c 0 fb (opp 3)
      ∗ slotAt c 1 fb (opp 3)
      ∗ outAt c 0 3 fo
      ∗ outAt c 1 3 fo
      ∗ sigRes m K c 4
      ∗ slotAt c 0 fb (opp 4)
      ∗ slotAt c 1 fb (opp 4)
      ∗ outAt c 0 4 fo
      ∗ outAt c 1 4 fo
      ∗ sigRes m K c 5
      ∗ slotAt c 0 fb (opp 5)
      ∗ slotAt c 1 fb (opp 5)
      ∗ outAt c 0 5 fo
      ∗ outAt c 1 5 fo
      ∗ owes (c : Thread nD τ) (O + tallyAt (barCell (fwd c 5)) () 1 + tallyAt (barCell (fwd c 4)) () 1 + tallyAt (barCell (fwd c 3)) () 1 + tallyAt (barCell (fwd c 2)) () 1 + tallyAt (barCell (fwd c 1)) () 1) W
      ∗ (∀ (v2 v24 x : BitVec 32), (owes (c : Thread nD τ) (O) (W)) -∗ Q ⟨c, v2, SemArray.scalar (sig.barrier 0 rfl), v24, x⟩))
      ⊢ wp frame (wpE (defs₀ (F := F)) 𝒱₀ c none) Set.univ (k0_part1 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q :=
  part1_spec m K c fo fb O W Q

theorem part2_spec' (c : Dev nD) (v2 : BitVec 32) (v24 : BitVec 32) (c32_i32_20 : BitVec 32) (fo : Buf (Elt F) ((c : Thread nD τ).loc cc0_scratch1)) (fb : Buf (Elt F) ((c : Thread nD τ).loc cc0_scratch2)) (O : CellTallies nD τ sig Unit) (W : Waits sig Unit) (Q : (Σ' (v48 : BitVec 32), BitVec 32) → sProp 𝕄) :
    iprop(sigRes m K c 6
      ∗ slotAt c 0 fb (opp 6)
      ∗ slotAt c 1 fb (opp 6)
      ∗ outAt c 0 6 fo
      ∗ outAt c 1 6 fo
      ∗ sigRes m K c 7
      ∗ slotAt c 0 fb (opp 7)
      ∗ slotAt c 1 fb (opp 7)
      ∗ outAt c 0 7 fo
      ∗ outAt c 1 7 fo
      ∗ sigRes m K c 8
      ∗ slotAt c 0 fb (opp 8)
      ∗ slotAt c 1 fb (opp 8)
      ∗ outAt c 0 8 fo
      ∗ outAt c 1 8 fo
      ∗ sigRes m K c 9
      ∗ slotAt c 0 fb (opp 9)
      ∗ slotAt c 1 fb (opp 9)
      ∗ outAt c 0 9 fo
      ∗ outAt c 1 9 fo
      ∗ sigRes m K c 10
      ∗ slotAt c 0 fb (opp 10)
      ∗ slotAt c 1 fb (opp 10)
      ∗ outAt c 0 10 fo
      ∗ outAt c 1 10 fo
      ∗ sigRes m K c 11
      ∗ slotAt c 0 fb (opp 11)
      ∗ slotAt c 1 fb (opp 11)
      ∗ outAt c 0 11 fo
      ∗ outAt c 1 11 fo
      ∗ owes (c : Thread nD τ) (O + tallyAt (barCell (fwd c 11)) () 1 + tallyAt (barCell (fwd c 10)) () 1 + tallyAt (barCell (fwd c 9)) () 1 + tallyAt (barCell (fwd c 8)) () 1 + tallyAt (barCell (fwd c 7)) () 1 + tallyAt (barCell (fwd c 6)) () 1) W
      ∗ (∀ r, (owes (c : Thread nD τ) (O) (W)) -∗ Q r))
      ⊢ wp frame (wpE (defs₀ (F := F)) 𝒱₀ c none) Set.univ (k0_part2 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v24 c32_i32_20) Q :=
  part2_spec m K c v2 v24 c32_i32_20 fo fb O W Q

theorem part3_spec' (c : Dev nD) (v2 : BitVec 32) (v48 : BitVec 32) (c32_i32_44 : BitVec 32) (fo : Buf (Elt F) ((c : Thread nD τ).loc cc0_scratch1)) (fb : Buf (Elt F) ((c : Thread nD τ).loc cc0_scratch2)) (O : CellTallies nD τ sig Unit) (W : Waits sig Unit) (Q : (Σ' (v72 : BitVec 32), BitVec 32) → sProp 𝕄) :
    iprop(sigRes m K c 12
      ∗ slotAt c 0 fb (opp 12)
      ∗ slotAt c 1 fb (opp 12)
      ∗ outAt c 0 12 fo
      ∗ outAt c 1 12 fo
      ∗ sigRes m K c 13
      ∗ slotAt c 0 fb (opp 13)
      ∗ slotAt c 1 fb (opp 13)
      ∗ outAt c 0 13 fo
      ∗ outAt c 1 13 fo
      ∗ sigRes m K c 14
      ∗ slotAt c 0 fb (opp 14)
      ∗ slotAt c 1 fb (opp 14)
      ∗ outAt c 0 14 fo
      ∗ outAt c 1 14 fo
      ∗ sigRes m K c 15
      ∗ slotAt c 0 fb (opp 15)
      ∗ slotAt c 1 fb (opp 15)
      ∗ outAt c 0 15 fo
      ∗ outAt c 1 15 fo
      ∗ sigRes m K c 16
      ∗ slotAt c 0 fb (opp 16)
      ∗ slotAt c 1 fb (opp 16)
      ∗ outAt c 0 16 fo
      ∗ outAt c 1 16 fo
      ∗ sigRes m K c 17
      ∗ slotAt c 0 fb (opp 17)
      ∗ slotAt c 1 fb (opp 17)
      ∗ outAt c 0 17 fo
      ∗ outAt c 1 17 fo
      ∗ owes (c : Thread nD τ) (O + tallyAt (barCell (fwd c 17)) () 1 + tallyAt (barCell (fwd c 16)) () 1 + tallyAt (barCell (fwd c 15)) () 1 + tallyAt (barCell (fwd c 14)) () 1 + tallyAt (barCell (fwd c 13)) () 1 + tallyAt (barCell (fwd c 12)) () 1) W
      ∗ (∀ r, (owes (c : Thread nD τ) (O) (W)) -∗ Q r))
      ⊢ wp frame (wpE (defs₀ (F := F)) 𝒱₀ c none) Set.univ (k0_part3 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v48 c32_i32_44) Q :=
  part3_spec m K c v2 v48 c32_i32_44 fo fb O W Q

theorem part4_spec' (c : Dev nD) (v2 : BitVec 32) (v72 : BitVec 32) (c32_i32_68 : BitVec 32) (fo : Buf (Elt F) ((c : Thread nD τ).loc cc0_scratch1)) (fb : Buf (Elt F) ((c : Thread nD τ).loc cc0_scratch2)) (O : CellTallies nD τ sig Unit) (W : Waits sig Unit) (Q : (Σ' (v96 : BitVec 32), BitVec 32) → sProp 𝕄) :
    iprop(sigRes m K c 18
      ∗ slotAt c 0 fb (opp 18)
      ∗ slotAt c 1 fb (opp 18)
      ∗ outAt c 0 18 fo
      ∗ outAt c 1 18 fo
      ∗ sigRes m K c 19
      ∗ slotAt c 0 fb (opp 19)
      ∗ slotAt c 1 fb (opp 19)
      ∗ outAt c 0 19 fo
      ∗ outAt c 1 19 fo
      ∗ sigRes m K c 20
      ∗ slotAt c 0 fb (opp 20)
      ∗ slotAt c 1 fb (opp 20)
      ∗ outAt c 0 20 fo
      ∗ outAt c 1 20 fo
      ∗ sigRes m K c 21
      ∗ slotAt c 0 fb (opp 21)
      ∗ slotAt c 1 fb (opp 21)
      ∗ outAt c 0 21 fo
      ∗ outAt c 1 21 fo
      ∗ sigRes m K c 22
      ∗ slotAt c 0 fb (opp 22)
      ∗ slotAt c 1 fb (opp 22)
      ∗ outAt c 0 22 fo
      ∗ outAt c 1 22 fo
      ∗ sigRes m K c 23
      ∗ slotAt c 0 fb (opp 23)
      ∗ slotAt c 1 fb (opp 23)
      ∗ outAt c 0 23 fo
      ∗ outAt c 1 23 fo
      ∗ owes (c : Thread nD τ) (O + tallyAt (barCell (fwd c 23)) () 1 + tallyAt (barCell (fwd c 22)) () 1 + tallyAt (barCell (fwd c 21)) () 1 + tallyAt (barCell (fwd c 20)) () 1 + tallyAt (barCell (fwd c 19)) () 1 + tallyAt (barCell (fwd c 18)) () 1) W
      ∗ (∀ r, (owes (c : Thread nD τ) (O) (W)) -∗ Q r))
      ⊢ wp frame (wpE (defs₀ (F := F)) 𝒱₀ c none) Set.univ (k0_part4 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v72 c32_i32_68) Q :=
  part4_spec m K c v2 v72 c32_i32_68 fo fb O W Q

theorem part5_spec' (c : Dev nD) (v2 : BitVec 32) (v96 : BitVec 32) (c32_i32_92 : BitVec 32) (fo : Buf (Elt F) ((c : Thread nD τ).loc cc0_scratch1)) (fb : Buf (Elt F) ((c : Thread nD τ).loc cc0_scratch2)) (O : CellTallies nD τ sig Unit) (W : Waits sig Unit) (Q : (Σ' (v120 : BitVec 32), BitVec 32) → sProp 𝕄) :
    iprop(sigRes m K c 24
      ∗ slotAt c 0 fb (opp 24)
      ∗ slotAt c 1 fb (opp 24)
      ∗ outAt c 0 24 fo
      ∗ outAt c 1 24 fo
      ∗ sigRes m K c 25
      ∗ slotAt c 0 fb (opp 25)
      ∗ slotAt c 1 fb (opp 25)
      ∗ outAt c 0 25 fo
      ∗ outAt c 1 25 fo
      ∗ sigRes m K c 26
      ∗ slotAt c 0 fb (opp 26)
      ∗ slotAt c 1 fb (opp 26)
      ∗ outAt c 0 26 fo
      ∗ outAt c 1 26 fo
      ∗ sigRes m K c 27
      ∗ slotAt c 0 fb (opp 27)
      ∗ slotAt c 1 fb (opp 27)
      ∗ outAt c 0 27 fo
      ∗ outAt c 1 27 fo
      ∗ sigRes m K c 28
      ∗ slotAt c 0 fb (opp 28)
      ∗ slotAt c 1 fb (opp 28)
      ∗ outAt c 0 28 fo
      ∗ outAt c 1 28 fo
      ∗ sigRes m K c 29
      ∗ slotAt c 0 fb (opp 29)
      ∗ slotAt c 1 fb (opp 29)
      ∗ outAt c 0 29 fo
      ∗ outAt c 1 29 fo
      ∗ owes (c : Thread nD τ) (O + tallyAt (barCell (fwd c 29)) () 1 + tallyAt (barCell (fwd c 28)) () 1 + tallyAt (barCell (fwd c 27)) () 1 + tallyAt (barCell (fwd c 26)) () 1 + tallyAt (barCell (fwd c 25)) () 1 + tallyAt (barCell (fwd c 24)) () 1) W
      ∗ (∀ r, (owes (c : Thread nD τ) (O) (W)) -∗ Q r))
      ⊢ wp frame (wpE (defs₀ (F := F)) 𝒱₀ c none) Set.univ (k0_part5 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v96 c32_i32_92) Q :=
  part5_spec m K c v2 v96 c32_i32_92 fo fb O W Q

theorem part7_spec' (c : Dev nD) (v2 : BitVec 32) (v147 : BitVec 32) (O : CellTallies nD τ sig Unit) (W : Waits sig Unit) (Q : (Σ' (v171 : BitVec 32), BitVec 32) → sProp 𝕄) :
    iprop(copyRes m K rsS rsR c 0 1
      ∗ accSrcAt m c 0 1
      ∗ peerSlotAt c 0 1
      ∗ copyRes m K rsS rsR c 0 2
      ∗ accSrcAt m c 0 2
      ∗ peerSlotAt c 0 2
      ∗ owes (c : Thread nD τ) (O + tallyAt (dmaCell (fwd c 2) rsR 0 2) () Nc + tallyAt (dmaCell (fwd c 1) rsR 0 1) () Nc) W
      ∗ (∀ r, (recvRes m K rsS c 0 1 ∗ recvRes m K rsS c 0 2 ∗ owes (c : Thread nD τ) (O) (W)) -∗ Q r))
      ⊢ wp frame (wpE (defs₀ (F := F)) 𝒱₀ c none) Set.univ (k0_part7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v147) Q :=
  part7_spec m K c v2 v147 O W Q

theorem part8_spec' (c : Dev nD) (v2 : BitVec 32) (v171 : BitVec 32) (c1_i32_173 : BitVec 32) (O : CellTallies nD τ sig Unit) (W : Waits sig Unit) (Q : (PUnit) → sProp 𝕄) :
    iprop(copyRes m K rsS rsR c 0 3
      ∗ accSrcAt m c 0 3
      ∗ peerSlotAt c 0 3
      ∗ copyRes m K rsS rsR c 0 4
      ∗ accSrcAt m c 0 4
      ∗ peerSlotAt c 0 4
      ∗ owes (c : Thread nD τ) (O + tallyAt (dmaCell (fwd c 4) rsR 0 4) () Nc + tallyAt (dmaCell (fwd c 3) rsR 0 3) () Nc) W
      ∗ (∀ r, (recvRes m K rsS c 0 3 ∗ recvRes m K rsS c 0 4 ∗ owes (c : Thread nD τ) (O) (W)) -∗ Q r))
      ⊢ wp frame (wpE (defs₀ (F := F)) 𝒱₀ c none) Set.univ (k0_part8 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v171 c1_i32_173) Q :=
  part8_spec m K c v2 v171 c1_i32_173 O W Q

theorem part9_spec' (c : Dev nD) (v2 : BitVec 32) (O : CellTallies nD τ sig Unit) (W : Waits sig Unit) (Q : (PUnit) → sProp 𝕄) :
    iprop(copyRes m K rsS rsR c 0 5
      ∗ accSrcAt m c 0 5
      ∗ peerSlotAt c 0 5
      ∗ copyRes m K rsS rsR c 0 6
      ∗ accSrcAt m c 0 6
      ∗ peerSlotAt c 0 6
      ∗ owes (c : Thread nD τ) (O + tallyAt (dmaCell (fwd c 6) rsR 0 6) () Nc + tallyAt (dmaCell (fwd c 5) rsR 0 5) () Nc) W
      ∗ (∀ r, (recvRes m K rsS c 0 5 ∗ recvRes m K rsS c 0 6 ∗ owes (c : Thread nD τ) (O) (W)) -∗ Q r))
      ⊢ wp frame (wpE (defs₀ (F := F)) 𝒱₀ c none) Set.univ (k0_part9 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part9_spec m K c v2 O W Q

theorem part10_spec' (c : Dev nD) (v2 : BitVec 32) (O : CellTallies nD τ sig Unit) (W : Waits sig Unit) (Q : (BitVec 32) → sProp 𝕄) :
    iprop(copyRes m K rsS rsR c 0 7
      ∗ accSrcAt m c 0 7
      ∗ peerSlotAt c 0 7
      ∗ copyRes m K rsS rsR c 0 8
      ∗ accSrcAt m c 0 8
      ∗ peerSlotAt c 0 8
      ∗ copyRes m K rsS rsR c 0 9
      ∗ accSrcAt m c 0 9
      ∗ peerSlotAt c 0 9
      ∗ owes (c : Thread nD τ) (O + tallyAt (dmaCell (fwd c 9) rsR 0 9) () Nc + tallyAt (dmaCell (fwd c 8) rsR 0 8) () Nc + tallyAt (dmaCell (fwd c 7) rsR 0 7) () Nc) W
      ∗ (∀ r, (recvRes m K rsS c 0 7 ∗ recvRes m K rsS c 0 8 ∗ recvRes m K rsS c 0 9 ∗ owes (c : Thread nD τ) (O) (W)) -∗ Q r))
      ⊢ wp frame (wpE (defs₀ (F := F)) 𝒱₀ c none) Set.univ (k0_part10 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part10_spec m K c v2 O W Q

theorem part11_spec' (c : Dev nD) (v2 : BitVec 32) (v255 : BitVec 32) (O : CellTallies nD τ sig Unit) (W : Waits sig Unit) (Q : (BitVec 32) → sProp 𝕄) :
    iprop(copyRes m K rsS rsR c 0 10
      ∗ accSrcAt m c 0 10
      ∗ peerSlotAt c 0 10
      ∗ copyRes m K rsS rsR c 0 11
      ∗ accSrcAt m c 0 11
      ∗ peerSlotAt c 0 11
      ∗ owes (c : Thread nD τ) (O + tallyAt (dmaCell (fwd c 11) rsR 0 11) () Nc + tallyAt (dmaCell (fwd c 10) rsR 0 10) () Nc) W
      ∗ (∀ r, (recvRes m K rsS c 0 10 ∗ recvRes m K rsS c 0 11 ∗ owes (c : Thread nD τ) (O) (W)) -∗ Q r))
      ⊢ wp frame (wpE (defs₀ (F := F)) 𝒱₀ c none) Set.univ (k0_part11 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v255) Q :=
  part11_spec m K c v2 v255 O W Q

theorem part12_spec' (c : Dev nD) (v2 : BitVec 32) (v279 : BitVec 32) (O : CellTallies nD τ sig Unit) (W : Waits sig Unit) (Q : (PUnit) → sProp 𝕄) :
    iprop(copyRes m K rsS rsR c 0 12
      ∗ accSrcAt m c 0 12
      ∗ peerSlotAt c 0 12
      ∗ copyRes m K rsS rsR c 0 13
      ∗ accSrcAt m c 0 13
      ∗ peerSlotAt c 0 13
      ∗ owes (c : Thread nD τ) (O + tallyAt (dmaCell (fwd c 13) rsR 0 13) () Nc + tallyAt (dmaCell (fwd c 12) rsR 0 12) () Nc) W
      ∗ (∀ r, (recvRes m K rsS c 0 12 ∗ recvRes m K rsS c 0 13 ∗ owes (c : Thread nD τ) (O) (W)) -∗ Q r))
      ⊢ wp frame (wpE (defs₀ (F := F)) 𝒱₀ c none) Set.univ (k0_part12 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v279) Q :=
  part12_spec m K c v2 v279 O W Q

theorem part13_spec' (c : Dev nD) (v2 : BitVec 32) (O : CellTallies nD τ sig Unit) (W : Waits sig Unit) (Q : (PUnit) → sProp 𝕄) :
    iprop(copyRes m K rsS rsR c 0 14
      ∗ accSrcAt m c 0 14
      ∗ peerSlotAt c 0 14
      ∗ copyRes m K rsS rsR c 0 15
      ∗ accSrcAt m c 0 15
      ∗ peerSlotAt c 0 15
      ∗ owes (c : Thread nD τ) (O + tallyAt (dmaCell (fwd c 15) rsR 0 15) () Nc + tallyAt (dmaCell (fwd c 14) rsR 0 14) () Nc) W
      ∗ (∀ r, (recvRes m K rsS c 0 14 ∗ recvRes m K rsS c 0 15 ∗ owes (c : Thread nD τ) (O) (W)) -∗ Q r))
      ⊢ wp frame (wpE (defs₀ (F := F)) 𝒱₀ c none) Set.univ (k0_part13 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part13_spec m K c v2 O W Q

theorem part14_spec' (c : Dev nD) (v2 : BitVec 32) (O : CellTallies nD τ sig Unit) (W : Waits sig Unit) (Q : (BitVec 32) → sProp 𝕄) :
    iprop(copyRes m K rsS rsR c 0 16
      ∗ accSrcAt m c 0 16
      ∗ peerSlotAt c 0 16
      ∗ copyRes m K rsS rsR c 0 17
      ∗ accSrcAt m c 0 17
      ∗ peerSlotAt c 0 17
      ∗ copyRes m K rsS rsR c 0 18
      ∗ accSrcAt m c 0 18
      ∗ peerSlotAt c 0 18
      ∗ owes (c : Thread nD τ) (O + tallyAt (dmaCell (fwd c 18) rsR 0 18) () Nc + tallyAt (dmaCell (fwd c 17) rsR 0 17) () Nc + tallyAt (dmaCell (fwd c 16) rsR 0 16) () Nc) W
      ∗ (∀ r, (recvRes m K rsS c 0 16 ∗ recvRes m K rsS c 0 17 ∗ recvRes m K rsS c 0 18 ∗ owes (c : Thread nD τ) (O) (W)) -∗ Q r))
      ⊢ wp frame (wpE (defs₀ (F := F)) 𝒱₀ c none) Set.univ (k0_part14 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part14_spec m K c v2 O W Q

theorem part15_spec' (c : Dev nD) (v2 : BitVec 32) (c19_i32_388 : BitVec 32) (O : CellTallies nD τ sig Unit) (W : Waits sig Unit) (Q : (BitVec 32) → sProp 𝕄) :
    iprop(copyRes m K rsS rsR c 0 19
      ∗ accSrcAt m c 0 19
      ∗ peerSlotAt c 0 19
      ∗ copyRes m K rsS rsR c 0 20
      ∗ accSrcAt m c 0 20
      ∗ peerSlotAt c 0 20
      ∗ owes (c : Thread nD τ) (O + tallyAt (dmaCell (fwd c 20) rsR 0 20) () Nc + tallyAt (dmaCell (fwd c 19) rsR 0 19) () Nc) W
      ∗ (∀ r, (recvRes m K rsS c 0 19 ∗ recvRes m K rsS c 0 20 ∗ owes (c : Thread nD τ) (O) (W)) -∗ Q r))
      ⊢ wp frame (wpE (defs₀ (F := F)) 𝒱₀ c none) Set.univ (k0_part15 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 c19_i32_388) Q :=
  part15_spec m K c v2 c19_i32_388 O W Q

theorem part16_spec' (c : Dev nD) (v2 : BitVec 32) (v387 : BitVec 32) (O : CellTallies nD τ sig Unit) (W : Waits sig Unit) (Q : (Σ' (v411 : BitVec 32), BitVec 32) → sProp 𝕄) :
    iprop(copyRes m K rsS rsR c 0 21
      ∗ accSrcAt m c 0 21
      ∗ peerSlotAt c 0 21
      ∗ copyRes m K rsS rsR c 0 22
      ∗ accSrcAt m c 0 22
      ∗ peerSlotAt c 0 22
      ∗ owes (c : Thread nD τ) (O + tallyAt (dmaCell (fwd c 22) rsR 0 22) () Nc + tallyAt (dmaCell (fwd c 21) rsR 0 21) () Nc) W
      ∗ (∀ r, (recvRes m K rsS c 0 21 ∗ recvRes m K rsS c 0 22 ∗ owes (c : Thread nD τ) (O) (W)) -∗ Q r))
      ⊢ wp frame (wpE (defs₀ (F := F)) 𝒱₀ c none) Set.univ (k0_part16 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v387) Q :=
  part16_spec m K c v2 v387 O W Q

theorem part17_spec' (c : Dev nD) (v2 : BitVec 32) (v411 : BitVec 32) (c1_i32_453 : BitVec 32) (O : CellTallies nD τ sig Unit) (W : Waits sig Unit) (Q : (PUnit) → sProp 𝕄) :
    iprop(copyRes m K rsS rsR c 0 23
      ∗ accSrcAt m c 0 23
      ∗ peerSlotAt c 0 23
      ∗ copyRes m K rsS rsR c 0 24
      ∗ accSrcAt m c 0 24
      ∗ peerSlotAt c 0 24
      ∗ owes (c : Thread nD τ) (O + tallyAt (dmaCell (fwd c 24) rsR 0 24) () Nc + tallyAt (dmaCell (fwd c 23) rsR 0 23) () Nc) W
      ∗ (∀ r, (recvRes m K rsS c 0 23 ∗ recvRes m K rsS c 0 24 ∗ owes (c : Thread nD τ) (O) (W)) -∗ Q r))
      ⊢ wp frame (wpE (defs₀ (F := F)) 𝒱₀ c none) Set.univ (k0_part17 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v411 c1_i32_453) Q :=
  part17_spec m K c v2 v411 c1_i32_453 O W Q

theorem part18_spec' (c : Dev nD) (v2 : BitVec 32) (O : CellTallies nD τ sig Unit) (W : Waits sig Unit) (Q : (PUnit) → sProp 𝕄) :
    iprop(copyRes m K rsS rsR c 0 25
      ∗ accSrcAt m c 0 25
      ∗ peerSlotAt c 0 25
      ∗ copyRes m K rsS rsR c 0 26
      ∗ accSrcAt m c 0 26
      ∗ peerSlotAt c 0 26
      ∗ owes (c : Thread nD τ) (O + tallyAt (dmaCell (fwd c 26) rsR 0 26) () Nc + tallyAt (dmaCell (fwd c 25) rsR 0 25) () Nc) W
      ∗ (∀ r, (recvRes m K rsS c 0 25 ∗ recvRes m K rsS c 0 26 ∗ owes (c : Thread nD τ) (O) (W)) -∗ Q r))
      ⊢ wp frame (wpE (defs₀ (F := F)) 𝒱₀ c none) Set.univ (k0_part18 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part18_spec m K c v2 O W Q

theorem part19_spec' (c : Dev nD) (v2 : BitVec 32) (O : CellTallies nD τ sig Unit) (W : Waits sig Unit) (Q : (BitVec 32) → sProp 𝕄) :
    iprop(copyRes m K rsS rsR c 0 27
      ∗ accSrcAt m c 0 27
      ∗ peerSlotAt c 0 27
      ∗ copyRes m K rsS rsR c 0 28
      ∗ accSrcAt m c 0 28
      ∗ peerSlotAt c 0 28
      ∗ copyRes m K rsS rsR c 0 29
      ∗ accSrcAt m c 0 29
      ∗ peerSlotAt c 0 29
      ∗ owes (c : Thread nD τ) (O + tallyAt (dmaCell (fwd c 29) rsR 0 29) () Nc + tallyAt (dmaCell (fwd c 28) rsR 0 28) () Nc + tallyAt (dmaCell (fwd c 27) rsR 0 27) () Nc) W
      ∗ (∀ r, (recvRes m K rsS c 0 27 ∗ recvRes m K rsS c 0 28 ∗ recvRes m K rsS c 0 29 ∗ owes (c : Thread nD τ) (O) (W)) -∗ Q r))
      ⊢ wp frame (wpE (defs₀ (F := F)) 𝒱₀ c none) Set.univ (k0_part19 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part19_spec m K c v2 O W Q

theorem part22_spec' (c : Dev nD) (v2 : BitVec 32) (O : CellTallies nD τ sig Unit) (W : Waits sig Unit) (Q : (PUnit) → sProp 𝕄) :
    iprop(copyRes m K rsS rsR c 1 2
      ∗ accSrcAt m c 1 2
      ∗ peerSlotAt c 1 2
      ∗ copyRes m K rsS rsR c 1 3
      ∗ accSrcAt m c 1 3
      ∗ peerSlotAt c 1 3
      ∗ owes (c : Thread nD τ) (O + tallyAt (dmaCell (fwd c 3) rsR 1 3) () Nc + tallyAt (dmaCell (fwd c 2) rsR 1 2) () Nc) W
      ∗ (∀ r, (recvRes m K rsS c 1 2 ∗ recvRes m K rsS c 1 3 ∗ owes (c : Thread nD τ) (O) (W)) -∗ Q r))
      ⊢ wp frame (wpE (defs₀ (F := F)) 𝒱₀ c none) Set.univ (k0_part22 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part22_spec m K c v2 O W Q

theorem part23_spec' (c : Dev nD) (v2 : BitVec 32) (O : CellTallies nD τ sig Unit) (W : Waits sig Unit) (Q : (Σ' (v603 : BitVec 32), BitVec 32) → sProp 𝕄) :
    iprop(copyRes m K rsS rsR c 1 4
      ∗ accSrcAt m c 1 4
      ∗ peerSlotAt c 1 4
      ∗ copyRes m K rsS rsR c 1 5
      ∗ accSrcAt m c 1 5
      ∗ peerSlotAt c 1 5
      ∗ copyRes m K rsS rsR c 1 6
      ∗ accSrcAt m c 1 6
      ∗ peerSlotAt c 1 6
      ∗ owes (c : Thread nD τ) (O + tallyAt (dmaCell (fwd c 6) rsR 1 6) () Nc + tallyAt (dmaCell (fwd c 5) rsR 1 5) () Nc + tallyAt (dmaCell (fwd c 4) rsR 1 4) () Nc) W
      ∗ (∀ r, (recvRes m K rsS c 1 4 ∗ recvRes m K rsS c 1 5 ∗ recvRes m K rsS c 1 6 ∗ owes (c : Thread nD τ) (O) (W)) -∗ Q r))
      ⊢ wp frame (wpE (defs₀ (F := F)) 𝒱₀ c none) Set.univ (k0_part23 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part23_spec m K c v2 O W Q

theorem part24_spec' (c : Dev nD) (v2 : BitVec 32) (v603 : BitVec 32) (c32_i32_662 : BitVec 32) (O : CellTallies nD τ sig Unit) (W : Waits sig Unit) (Q : (BitVec 32) → sProp 𝕄) :
    iprop(copyRes m K rsS rsR c 1 7
      ∗ accSrcAt m c 1 7
      ∗ peerSlotAt c 1 7
      ∗ copyRes m K rsS rsR c 1 8
      ∗ accSrcAt m c 1 8
      ∗ peerSlotAt c 1 8
      ∗ owes (c : Thread nD τ) (O + tallyAt (dmaCell (fwd c 8) rsR 1 8) () Nc + tallyAt (dmaCell (fwd c 7) rsR 1 7) () Nc) W
      ∗ (∀ r, (recvRes m K rsS c 1 7 ∗ recvRes m K rsS c 1 8 ∗ owes (c : Thread nD τ) (O) (W)) -∗ Q r))
      ⊢ wp frame (wpE (defs₀ (F := F)) 𝒱₀ c none) Set.univ (k0_part24 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v603 c32_i32_662) Q :=
  part24_spec m K c v2 v603 c32_i32_662 O W Q

theorem part25_spec' (c : Dev nD) (v2 : BitVec 32) (v627 : BitVec 32) (O : CellTallies nD τ sig Unit) (W : Waits sig Unit) (Q : (PUnit) → sProp 𝕄) :
    iprop(copyRes m K rsS rsR c 1 9
      ∗ accSrcAt m c 1 9
      ∗ peerSlotAt c 1 9
      ∗ copyRes m K rsS rsR c 1 10
      ∗ accSrcAt m c 1 10
      ∗ peerSlotAt c 1 10
      ∗ owes (c : Thread nD τ) (O + tallyAt (dmaCell (fwd c 10) rsR 1 10) () Nc + tallyAt (dmaCell (fwd c 9) rsR 1 9) () Nc) W
      ∗ (∀ r, (recvRes m K rsS c 1 9 ∗ recvRes m K rsS c 1 10 ∗ owes (c : Thread nD τ) (O) (W)) -∗ Q r))
      ⊢ wp frame (wpE (defs₀ (F := F)) 𝒱₀ c none) Set.univ (k0_part25 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v627) Q :=
  part25_spec m K c v2 v627 O W Q

theorem part26_spec' (c : Dev nD) (v2 : BitVec 32) (O : CellTallies nD τ sig Unit) (W : Waits sig Unit) (Q : (PUnit) → sProp 𝕄) :
    iprop(copyRes m K rsS rsR c 1 11
      ∗ accSrcAt m c 1 11
      ∗ peerSlotAt c 1 11
      ∗ copyRes m K rsS rsR c 1 12
      ∗ accSrcAt m c 1 12
      ∗ peerSlotAt c 1 12
      ∗ owes (c : Thread nD τ) (O + tallyAt (dmaCell (fwd c 12) rsR 1 12) () Nc + tallyAt (dmaCell (fwd c 11) rsR 1 11) () Nc) W
      ∗ (∀ r, (recvRes m K rsS c 1 11 ∗ recvRes m K rsS c 1 12 ∗ owes (c : Thread nD τ) (O) (W)) -∗ Q r))
      ⊢ wp frame (wpE (defs₀ (F := F)) 𝒱₀ c none) Set.univ (k0_part26 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part26_spec m K c v2 O W Q

theorem part27_spec' (c : Dev nD) (v2 : BitVec 32) (O : CellTallies nD τ sig Unit) (W : Waits sig Unit) (Q : (BitVec 32) → sProp 𝕄) :
    iprop(copyRes m K rsS rsR c 1 13
      ∗ accSrcAt m c 1 13
      ∗ peerSlotAt c 1 13
      ∗ copyRes m K rsS rsR c 1 14
      ∗ accSrcAt m c 1 14
      ∗ peerSlotAt c 1 14
      ∗ copyRes m K rsS rsR c 1 15
      ∗ accSrcAt m c 1 15
      ∗ peerSlotAt c 1 15
      ∗ owes (c : Thread nD τ) (O + tallyAt (dmaCell (fwd c 15) rsR 1 15) () Nc + tallyAt (dmaCell (fwd c 14) rsR 1 14) () Nc + tallyAt (dmaCell (fwd c 13) rsR 1 13) () Nc) W
      ∗ (∀ r, (recvRes m K rsS c 1 13 ∗ recvRes m K rsS c 1 14 ∗ recvRes m K rsS c 1 15 ∗ owes (c : Thread nD τ) (O) (W)) -∗ Q r))
      ⊢ wp frame (wpE (defs₀ (F := F)) 𝒱₀ c none) Set.univ (k0_part27 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part27_spec m K c v2 O W Q

theorem part28_spec' (c : Dev nD) (v2 : BitVec 32) (v710 : BitVec 32) (O : CellTallies nD τ sig Unit) (W : Waits sig Unit) (Q : (BitVec 32) → sProp 𝕄) :
    iprop(copyRes m K rsS rsR c 1 16
      ∗ accSrcAt m c 1 16
      ∗ peerSlotAt c 1 16
      ∗ copyRes m K rsS rsR c 1 17
      ∗ accSrcAt m c 1 17
      ∗ peerSlotAt c 1 17
      ∗ owes (c : Thread nD τ) (O + tallyAt (dmaCell (fwd c 17) rsR 1 17) () Nc + tallyAt (dmaCell (fwd c 16) rsR 1 16) () Nc) W
      ∗ (∀ r, (recvRes m K rsS c 1 16 ∗ recvRes m K rsS c 1 17 ∗ owes (c : Thread nD τ) (O) (W)) -∗ Q r))
      ⊢ wp frame (wpE (defs₀ (F := F)) 𝒱₀ c none) Set.univ (k0_part28 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v710) Q :=
  part28_spec m K c v2 v710 O W Q

theorem part29_spec' (c : Dev nD) (v2 : BitVec 32) (v735 : BitVec 32) (O : CellTallies nD τ sig Unit) (W : Waits sig Unit) (Q : (BitVec 32) → sProp 𝕄) :
    iprop(copyRes m K rsS rsR c 1 18
      ∗ accSrcAt m c 1 18
      ∗ peerSlotAt c 1 18
      ∗ copyRes m K rsS rsR c 1 19
      ∗ accSrcAt m c 1 19
      ∗ peerSlotAt c 1 19
      ∗ owes (c : Thread nD τ) (O + tallyAt (dmaCell (fwd c 19) rsR 1 19) () Nc + tallyAt (dmaCell (fwd c 18) rsR 1 18) () Nc) W
      ∗ (∀ r, (recvRes m K rsS c 1 18 ∗ recvRes m K rsS c 1 19 ∗ owes (c : Thread nD τ) (O) (W)) -∗ Q r))
      ⊢ wp frame (wpE (defs₀ (F := F)) 𝒱₀ c none) Set.univ (k0_part29 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v735) Q :=
  part29_spec m K c v2 v735 O W Q

theorem part30_spec' (c : Dev nD) (v2 : BitVec 32) (v761 : BitVec 32) (O : CellTallies nD τ sig Unit) (W : Waits sig Unit) (Q : (PUnit) → sProp 𝕄) :
    iprop(copyRes m K rsS rsR c 1 20
      ∗ accSrcAt m c 1 20
      ∗ peerSlotAt c 1 20
      ∗ copyRes m K rsS rsR c 1 21
      ∗ accSrcAt m c 1 21
      ∗ peerSlotAt c 1 21
      ∗ owes (c : Thread nD τ) (O + tallyAt (dmaCell (fwd c 21) rsR 1 21) () Nc + tallyAt (dmaCell (fwd c 20) rsR 1 20) () Nc) W
      ∗ (∀ r, (recvRes m K rsS c 1 20 ∗ recvRes m K rsS c 1 21 ∗ owes (c : Thread nD τ) (O) (W)) -∗ Q r))
      ⊢ wp frame (wpE (defs₀ (F := F)) 𝒱₀ c none) Set.univ (k0_part30 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v761) Q :=
  part30_spec m K c v2 v761 O W Q

theorem part31_spec' (c : Dev nD) (v2 : BitVec 32) (O : CellTallies nD τ sig Unit) (W : Waits sig Unit) (Q : (PUnit) → sProp 𝕄) :
    iprop(copyRes m K rsS rsR c 1 22
      ∗ accSrcAt m c 1 22
      ∗ peerSlotAt c 1 22
      ∗ copyRes m K rsS rsR c 1 23
      ∗ accSrcAt m c 1 23
      ∗ peerSlotAt c 1 23
      ∗ owes (c : Thread nD τ) (O + tallyAt (dmaCell (fwd c 23) rsR 1 23) () Nc + tallyAt (dmaCell (fwd c 22) rsR 1 22) () Nc) W
      ∗ (∀ r, (recvRes m K rsS c 1 22 ∗ recvRes m K rsS c 1 23 ∗ owes (c : Thread nD τ) (O) (W)) -∗ Q r))
      ⊢ wp frame (wpE (defs₀ (F := F)) 𝒱₀ c none) Set.univ (k0_part31 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part31_spec m K c v2 O W Q

theorem part32_spec' (c : Dev nD) (v2 : BitVec 32) (O : CellTallies nD τ sig Unit) (W : Waits sig Unit) (Q : (Σ' (v843 : BitVec 32), BitVec 32) → sProp 𝕄) :
    iprop(copyRes m K rsS rsR c 1 24
      ∗ accSrcAt m c 1 24
      ∗ peerSlotAt c 1 24
      ∗ copyRes m K rsS rsR c 1 25
      ∗ accSrcAt m c 1 25
      ∗ peerSlotAt c 1 25
      ∗ copyRes m K rsS rsR c 1 26
      ∗ accSrcAt m c 1 26
      ∗ peerSlotAt c 1 26
      ∗ owes (c : Thread nD τ) (O + tallyAt (dmaCell (fwd c 26) rsR 1 26) () Nc + tallyAt (dmaCell (fwd c 25) rsR 1 25) () Nc + tallyAt (dmaCell (fwd c 24) rsR 1 24) () Nc) W
      ∗ (∀ r, (recvRes m K rsS c 1 24 ∗ recvRes m K rsS c 1 25 ∗ recvRes m K rsS c 1 26 ∗ owes (c : Thread nD τ) (O) (W)) -∗ Q r))
      ⊢ wp frame (wpE (defs₀ (F := F)) 𝒱₀ c none) Set.univ (k0_part32 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part32_spec m K c v2 O W Q

theorem part33_spec' (c : Dev nD) (v2 : BitVec 32) (v843 : BitVec 32) (c32_i32_942 : BitVec 32) (O : CellTallies nD τ sig Unit) (W : Waits sig Unit) (Q : (BitVec 32) → sProp 𝕄) :
    iprop(copyRes m K rsS rsR c 1 27
      ∗ accSrcAt m c 1 27
      ∗ peerSlotAt c 1 27
      ∗ copyRes m K rsS rsR c 1 28
      ∗ accSrcAt m c 1 28
      ∗ peerSlotAt c 1 28
      ∗ owes (c : Thread nD τ) (O + tallyAt (dmaCell (fwd c 28) rsR 1 28) () Nc + tallyAt (dmaCell (fwd c 27) rsR 1 27) () Nc) W
      ∗ (∀ r, (recvRes m K rsS c 1 27 ∗ recvRes m K rsS c 1 28 ∗ owes (c : Thread nD τ) (O) (W)) -∗ Q r))
      ⊢ wp frame (wpE (defs₀ (F := F)) 𝒱₀ c none) Set.univ (k0_part33 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v843 c32_i32_942) Q :=
  part33_spec m K c v2 v843 c32_i32_942 O W Q

theorem part34_spec' (c : Dev nD) (v2 : BitVec 32) (v867 : BitVec 32) (O : CellTallies nD τ sig Unit) (W : Waits sig Unit) (Q : (PUnit) → sProp 𝕄) :
    iprop(copyRes m K rsS rsR c 1 29
      ∗ accSrcAt m c 1 29
      ∗ peerSlotAt c 1 29
      ∗ copyRes m K rsS rsR c 1 30
      ∗ accSrcAt m c 1 30
      ∗ peerSlotAt c 1 30
      ∗ owes (c : Thread nD τ) (O + tallyAt (dmaCell (fwd c 30) rsR 1 30) () Nc + tallyAt (dmaCell (fwd c 29) rsR 1 29) () Nc) W
      ∗ (∀ r, (recvRes m K rsS c 1 29 ∗ recvRes m K rsS c 1 30 ∗ owes (c : Thread nD τ) (O) (W)) -∗ Q r))
      ⊢ wp frame (wpE (defs₀ (F := F)) 𝒱₀ c none) Set.univ (k0_part34 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v867) Q :=
  part34_spec m K c v2 v867 O W Q

theorem part35_spec' (c : Dev nD) (v2 : BitVec 32) (O : CellTallies nD τ sig Unit) (hmw1 : (levAts L lv : sProp 𝕄) ⊢ MayWait (c : Thread nD τ) (.dma (semAt (arr rsR) 0 1)) () O) (W : Waits sig Unit) (Q : (PUnit) → sProp 𝕄) :
    iprop(copyRes m K rsS rsR c 1 31
      ∗ accSrcAt m c 1 31
      ∗ peerSlotAt c 1 31
      ∗ recvRes m K rsR c 0 1
      ∗ levAts L lv
      ∗ owes (c : Thread nD τ) (O + tallyAt (dmaCell (fwd c 31) rsR 1 31) () Nc) W
      ∗ (∀ r, (recvRes m K rsS c 1 31 ∗ gotRsR m c 0 1 ∗ closedAt m K c 0 1 rsR ∗ owes (c : Thread nD τ) (O) (insert (SemLoc.dma (semAt (arr rsR) 0 1), ()) (W))) -∗ Q r))
      ⊢ wp frame (wpE (defs₀ (F := F)) 𝒱₀ c none) Set.univ (k0_part35 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part35_spec m K c v2 O hmw1 W Q

theorem part36_spec' (c : Dev nD) (v2 : BitVec 32) (W : Waits sig Unit) (Q : (PUnit) → sProp 𝕄) :
    iprop(recvRes m K rsR c 0 2
      ∗ recvRes m K rsR c 0 3
      ∗ levAts L lv
      ∗ owes (c : Thread nD τ) (owedAfter c 93) W
      ∗ (∀ r, (gotRsR m c 0 2 ∗ closedAt m K c 0 2 rsR ∗ gotRsR m c 0 3 ∗ closedAt m K c 0 3 rsR ∗ owes (c : Thread nD τ) (owedAfter c 93) (insert (SemLoc.dma (semAt (arr rsR) 0 3), ()) (insert (SemLoc.dma (semAt (arr rsR) 0 2), ()) (W)))) -∗ Q r))
      ⊢ wp frame (wpE (defs₀ (F := F)) 𝒱₀ c none) Set.univ (k0_part36 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part36_spec m K c v2 W Q

theorem part37_spec' (c : Dev nD) (v2 : BitVec 32) (W : Waits sig Unit) (Q : (PUnit) → sProp 𝕄) :
    iprop(recvRes m K rsR c 0 4
      ∗ recvRes m K rsR c 0 5
      ∗ levAts L lv
      ∗ owes (c : Thread nD τ) (owedAfter c 93) W
      ∗ (∀ r, (gotRsR m c 0 4 ∗ closedAt m K c 0 4 rsR ∗ gotRsR m c 0 5 ∗ closedAt m K c 0 5 rsR ∗ owes (c : Thread nD τ) (owedAfter c 93) (insert (SemLoc.dma (semAt (arr rsR) 0 5), ()) (insert (SemLoc.dma (semAt (arr rsR) 0 4), ()) (W)))) -∗ Q r))
      ⊢ wp frame (wpE (defs₀ (F := F)) 𝒱₀ c none) Set.univ (k0_part37 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part37_spec m K c v2 W Q

theorem part38_spec' (c : Dev nD) (v2 : BitVec 32) (W : Waits sig Unit) (Q : (PUnit) → sProp 𝕄) :
    iprop(recvRes m K rsR c 0 6
      ∗ recvRes m K rsR c 0 7
      ∗ levAts L lv
      ∗ owes (c : Thread nD τ) (owedAfter c 93) W
      ∗ (∀ r, (gotRsR m c 0 6 ∗ closedAt m K c 0 6 rsR ∗ gotRsR m c 0 7 ∗ closedAt m K c 0 7 rsR ∗ owes (c : Thread nD τ) (owedAfter c 93) (insert (SemLoc.dma (semAt (arr rsR) 0 7), ()) (insert (SemLoc.dma (semAt (arr rsR) 0 6), ()) (W)))) -∗ Q r))
      ⊢ wp frame (wpE (defs₀ (F := F)) 𝒱₀ c none) Set.univ (k0_part38 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part38_spec m K c v2 W Q

theorem part39_spec' (c : Dev nD) (v2 : BitVec 32) (W : Waits sig Unit) (Q : (PUnit) → sProp 𝕄) :
    iprop(recvRes m K rsR c 0 8
      ∗ recvRes m K rsR c 0 9
      ∗ recvRes m K rsR c 0 10
      ∗ levAts L lv
      ∗ owes (c : Thread nD τ) (owedAfter c 93) W
      ∗ (∀ r, (gotRsR m c 0 8 ∗ closedAt m K c 0 8 rsR ∗ gotRsR m c 0 9 ∗ closedAt m K c 0 9 rsR ∗ gotRsR m c 0 10 ∗ closedAt m K c 0 10 rsR ∗ owes (c : Thread nD τ) (owedAfter c 93) (insert (SemLoc.dma (semAt (arr rsR) 0 10), ()) (insert (SemLoc.dma (semAt (arr rsR) 0 9), ()) (insert (SemLoc.dma (semAt (arr rsR) 0 8), ()) (W))))) -∗ Q r))
      ⊢ wp frame (wpE (defs₀ (F := F)) 𝒱₀ c none) Set.univ (k0_part39 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part39_spec m K c v2 W Q

theorem part40_spec' (c : Dev nD) (v2 : BitVec 32) (W : Waits sig Unit) (Q : (BitVec 32) → sProp 𝕄) :
    iprop(recvRes m K rsR c 0 11
      ∗ recvRes m K rsR c 0 12
      ∗ levAts L lv
      ∗ owes (c : Thread nD τ) (owedAfter c 93) W
      ∗ (∀ r, (gotRsR m c 0 11 ∗ closedAt m K c 0 11 rsR ∗ gotRsR m c 0 12 ∗ closedAt m K c 0 12 rsR ∗ owes (c : Thread nD τ) (owedAfter c 93) (insert (SemLoc.dma (semAt (arr rsR) 0 12), ()) (insert (SemLoc.dma (semAt (arr rsR) 0 11), ()) (W)))) -∗ Q r))
      ⊢ wp frame (wpE (defs₀ (F := F)) 𝒱₀ c none) Set.univ (k0_part40 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part40_spec m K c v2 W Q

theorem part41_spec' (c : Dev nD) (v2 : BitVec 32) (v1034 : BitVec 32) (W : Waits sig Unit) (Q : (BitVec 32) → sProp 𝕄) :
    iprop(recvRes m K rsR c 0 13
      ∗ recvRes m K rsR c 0 14
      ∗ levAts L lv
      ∗ owes (c : Thread nD τ) (owedAfter c 93) W
      ∗ (∀ r, (gotRsR m c 0 13 ∗ closedAt m K c 0 13 rsR ∗ gotRsR m c 0 14 ∗ closedAt m K c 0 14 rsR ∗ owes (c : Thread nD τ) (owedAfter c 93) (insert (SemLoc.dma (semAt (arr rsR) 0 14), ()) (insert (SemLoc.dma (semAt (arr rsR) 0 13), ()) (W)))) -∗ Q r))
      ⊢ wp frame (wpE (defs₀ (F := F)) 𝒱₀ c none) Set.univ (k0_part41 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1034) Q :=
  part41_spec m K c v2 v1034 W Q

theorem part42_spec' (c : Dev nD) (v2 : BitVec 32) (v1057 : BitVec 32) (W : Waits sig Unit) (Q : (BitVec 32) → sProp 𝕄) :
    iprop(recvRes m K rsR c 0 15
      ∗ recvRes m K rsR c 0 16
      ∗ levAts L lv
      ∗ owes (c : Thread nD τ) (owedAfter c 93) W
      ∗ (∀ r, (gotRsR m c 0 15 ∗ closedAt m K c 0 15 rsR ∗ gotRsR m c 0 16 ∗ closedAt m K c 0 16 rsR ∗ owes (c : Thread nD τ) (owedAfter c 93) (insert (SemLoc.dma (semAt (arr rsR) 0 16), ()) (insert (SemLoc.dma (semAt (arr rsR) 0 15), ()) (W)))) -∗ Q r))
      ⊢ wp frame (wpE (defs₀ (F := F)) 𝒱₀ c none) Set.univ (k0_part42 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1057) Q :=
  part42_spec m K c v2 v1057 W Q

theorem part43_spec' (c : Dev nD) (v2 : BitVec 32) (v1080 : BitVec 32) (W : Waits sig Unit) (Q : (BitVec 32) → sProp 𝕄) :
    iprop(recvRes m K rsR c 0 17
      ∗ recvRes m K rsR c 0 18
      ∗ levAts L lv
      ∗ owes (c : Thread nD τ) (owedAfter c 93) W
      ∗ (∀ r, (gotRsR m c 0 17 ∗ closedAt m K c 0 17 rsR ∗ gotRsR m c 0 18 ∗ closedAt m K c 0 18 rsR ∗ owes (c : Thread nD τ) (owedAfter c 93) (insert (SemLoc.dma (semAt (arr rsR) 0 18), ()) (insert (SemLoc.dma (semAt (arr rsR) 0 17), ()) (W)))) -∗ Q r))
      ⊢ wp frame (wpE (defs₀ (F := F)) 𝒱₀ c none) Set.univ (k0_part43 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1080) Q :=
  part43_spec m K c v2 v1080 W Q

theorem part44_spec' (c : Dev nD) (v2 : BitVec 32) (v1102 : BitVec 32) (W : Waits sig Unit) (Q : (BitVec 32) → sProp 𝕄) :
    iprop(recvRes m K rsR c 0 19
      ∗ recvRes m K rsR c 0 20
      ∗ levAts L lv
      ∗ owes (c : Thread nD τ) (owedAfter c 93) W
      ∗ (∀ r, (gotRsR m c 0 19 ∗ closedAt m K c 0 19 rsR ∗ gotRsR m c 0 20 ∗ closedAt m K c 0 20 rsR ∗ owes (c : Thread nD τ) (owedAfter c 93) (insert (SemLoc.dma (semAt (arr rsR) 0 20), ()) (insert (SemLoc.dma (semAt (arr rsR) 0 19), ()) (W)))) -∗ Q r))
      ⊢ wp frame (wpE (defs₀ (F := F)) 𝒱₀ c none) Set.univ (k0_part44 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1102) Q :=
  part44_spec m K c v2 v1102 W Q

theorem part45_spec' (c : Dev nD) (v2 : BitVec 32) (v1124 : BitVec 32) (W : Waits sig Unit) (Q : (BitVec 32) → sProp 𝕄) :
    iprop(recvRes m K rsR c 0 21
      ∗ recvRes m K rsR c 0 22
      ∗ levAts L lv
      ∗ owes (c : Thread nD τ) (owedAfter c 93) W
      ∗ (∀ r, (gotRsR m c 0 21 ∗ closedAt m K c 0 21 rsR ∗ gotRsR m c 0 22 ∗ closedAt m K c 0 22 rsR ∗ owes (c : Thread nD τ) (owedAfter c 93) (insert (SemLoc.dma (semAt (arr rsR) 0 22), ()) (insert (SemLoc.dma (semAt (arr rsR) 0 21), ()) (W)))) -∗ Q r))
      ⊢ wp frame (wpE (defs₀ (F := F)) 𝒱₀ c none) Set.univ (k0_part45 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1124) Q :=
  part45_spec m K c v2 v1124 W Q

theorem part46_spec' (c : Dev nD) (v2 : BitVec 32) (v1146 : BitVec 32) (W : Waits sig Unit) (Q : (BitVec 32) → sProp 𝕄) :
    iprop(recvRes m K rsR c 0 23
      ∗ recvRes m K rsR c 0 24
      ∗ levAts L lv
      ∗ owes (c : Thread nD τ) (owedAfter c 93) W
      ∗ (∀ r, (gotRsR m c 0 23 ∗ closedAt m K c 0 23 rsR ∗ gotRsR m c 0 24 ∗ closedAt m K c 0 24 rsR ∗ owes (c : Thread nD τ) (owedAfter c 93) (insert (SemLoc.dma (semAt (arr rsR) 0 24), ()) (insert (SemLoc.dma (semAt (arr rsR) 0 23), ()) (W)))) -∗ Q r))
      ⊢ wp frame (wpE (defs₀ (F := F)) 𝒱₀ c none) Set.univ (k0_part46 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1146) Q :=
  part46_spec m K c v2 v1146 W Q

theorem part47_spec' (c : Dev nD) (v2 : BitVec 32) (v1168 : BitVec 32) (W : Waits sig Unit) (Q : (BitVec 32) → sProp 𝕄) :
    iprop(recvRes m K rsR c 0 25
      ∗ recvRes m K rsR c 0 26
      ∗ levAts L lv
      ∗ owes (c : Thread nD τ) (owedAfter c 93) W
      ∗ (∀ r, (gotRsR m c 0 25 ∗ closedAt m K c 0 25 rsR ∗ gotRsR m c 0 26 ∗ closedAt m K c 0 26 rsR ∗ owes (c : Thread nD τ) (owedAfter c 93) (insert (SemLoc.dma (semAt (arr rsR) 0 26), ()) (insert (SemLoc.dma (semAt (arr rsR) 0 25), ()) (W)))) -∗ Q r))
      ⊢ wp frame (wpE (defs₀ (F := F)) 𝒱₀ c none) Set.univ (k0_part47 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1168) Q :=
  part47_spec m K c v2 v1168 W Q

theorem part48_spec' (c : Dev nD) (v2 : BitVec 32) (v1191 : BitVec 32) (W : Waits sig Unit) (Q : (PUnit) → sProp 𝕄) :
    iprop(recvRes m K rsR c 0 27
      ∗ recvRes m K rsR c 0 28
      ∗ levAts L lv
      ∗ owes (c : Thread nD τ) (owedAfter c 93) W
      ∗ (∀ r, (gotRsR m c 0 27 ∗ closedAt m K c 0 27 rsR ∗ gotRsR m c 0 28 ∗ closedAt m K c 0 28 rsR ∗ owes (c : Thread nD τ) (owedAfter c 93) (insert (SemLoc.dma (semAt (arr rsR) 0 28), ()) (insert (SemLoc.dma (semAt (arr rsR) 0 27), ()) (W)))) -∗ Q r))
      ⊢ wp frame (wpE (defs₀ (F := F)) 𝒱₀ c none) Set.univ (k0_part48 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1191) Q :=
  part48_spec m K c v2 v1191 W Q

theorem part49_spec' (c : Dev nD) (v2 : BitVec 32) (W : Waits sig Unit) (Q : (PUnit) → sProp 𝕄) :
    iprop(recvRes m K rsR c 0 29
      ∗ recvRes m K rsR c 0 30
      ∗ levAts L lv
      ∗ owes (c : Thread nD τ) (owedAfter c 93) W
      ∗ (∀ r, (gotRsR m c 0 29 ∗ closedAt m K c 0 29 rsR ∗ gotRsR m c 0 30 ∗ closedAt m K c 0 30 rsR ∗ owes (c : Thread nD τ) (owedAfter c 93) (insert (SemLoc.dma (semAt (arr rsR) 0 30), ()) (insert (SemLoc.dma (semAt (arr rsR) 0 29), ()) (W)))) -∗ Q r))
      ⊢ wp frame (wpE (defs₀ (F := F)) 𝒱₀ c none) Set.univ (k0_part49 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part49_spec m K c v2 W Q

theorem part51_spec' (c : Dev nD) (v2 : BitVec 32) (O : CellTallies nD τ sig Unit) (W : Waits sig Unit) (Q : (BitVec 32) → sProp 𝕄) :
    iprop(copyRes m K agS agR c 0 1
      ∗ outShareAt m c 0 1
      ∗ peerOutAt c 0 1
      ∗ copyRes m K agS agR c 0 2
      ∗ outShareAt m c 0 2
      ∗ peerOutAt c 0 2
      ∗ copyRes m K agS agR c 0 3
      ∗ outShareAt m c 0 3
      ∗ peerOutAt c 0 3
      ∗ owes (c : Thread nD τ) (O + tallyAt (dmaCell (fwd c 3) agR 0 3) () Nc + tallyAt (dmaCell (fwd c 2) agR 0 2) () Nc + tallyAt (dmaCell (fwd c 1) agR 0 1) () Nc) W
      ∗ (∀ r, (recvRes m K agS c 0 1 ∗ recvRes m K agS c 0 2 ∗ recvRes m K agS c 0 3 ∗ owes (c : Thread nD τ) (O) (W)) -∗ Q r))
      ⊢ wp frame (wpE (defs₀ (F := F)) 𝒱₀ c none) Set.univ (k0_part51 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part51_spec m K c v2 O W Q

theorem part52_spec' (c : Dev nD) (v2 : BitVec 32) (c4_i32_1584 : BitVec 32) (O : CellTallies nD τ sig Unit) (W : Waits sig Unit) (Q : (BitVec 32) → sProp 𝕄) :
    iprop(copyRes m K agS agR c 0 4
      ∗ outShareAt m c 0 4
      ∗ peerOutAt c 0 4
      ∗ copyRes m K agS agR c 0 5
      ∗ outShareAt m c 0 5
      ∗ peerOutAt c 0 5
      ∗ owes (c : Thread nD τ) (O + tallyAt (dmaCell (fwd c 5) agR 0 5) () Nc + tallyAt (dmaCell (fwd c 4) agR 0 4) () Nc) W
      ∗ (∀ r, (recvRes m K agS c 0 4 ∗ recvRes m K agS c 0 5 ∗ owes (c : Thread nD τ) (O) (W)) -∗ Q r))
      ⊢ wp frame (wpE (defs₀ (F := F)) 𝒱₀ c none) Set.univ (k0_part52 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 c4_i32_1584) Q :=
  part52_spec m K c v2 c4_i32_1584 O W Q

theorem part53_spec' (c : Dev nD) (v2 : BitVec 32) (v1327 : BitVec 32) (O : CellTallies nD τ sig Unit) (W : Waits sig Unit) (Q : (PUnit) → sProp 𝕄) :
    iprop(copyRes m K agS agR c 0 6
      ∗ outShareAt m c 0 6
      ∗ peerOutAt c 0 6
      ∗ copyRes m K agS agR c 0 7
      ∗ outShareAt m c 0 7
      ∗ peerOutAt c 0 7
      ∗ owes (c : Thread nD τ) (O + tallyAt (dmaCell (fwd c 7) agR 0 7) () Nc + tallyAt (dmaCell (fwd c 6) agR 0 6) () Nc) W
      ∗ (∀ r, (recvRes m K agS c 0 6 ∗ recvRes m K agS c 0 7 ∗ owes (c : Thread nD τ) (O) (W)) -∗ Q r))
      ⊢ wp frame (wpE (defs₀ (F := F)) 𝒱₀ c none) Set.univ (k0_part53 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1327) Q :=
  part53_spec m K c v2 v1327 O W Q

theorem part54_spec' (c : Dev nD) (v2 : BitVec 32) (O : CellTallies nD τ sig Unit) (W : Waits sig Unit) (Q : (BitVec 32) → sProp 𝕄) :
    iprop(copyRes m K agS agR c 0 8
      ∗ outShareAt m c 0 8
      ∗ peerOutAt c 0 8
      ∗ copyRes m K agS agR c 0 9
      ∗ outShareAt m c 0 9
      ∗ peerOutAt c 0 9
      ∗ copyRes m K agS agR c 0 10
      ∗ outShareAt m c 0 10
      ∗ peerOutAt c 0 10
      ∗ owes (c : Thread nD τ) (O + tallyAt (dmaCell (fwd c 10) agR 0 10) () Nc + tallyAt (dmaCell (fwd c 9) agR 0 9) () Nc + tallyAt (dmaCell (fwd c 8) agR 0 8) () Nc) W
      ∗ (∀ r, (recvRes m K agS c 0 8 ∗ recvRes m K agS c 0 9 ∗ recvRes m K agS c 0 10 ∗ owes (c : Thread nD τ) (O) (W)) -∗ Q r))
      ⊢ wp frame (wpE (defs₀ (F := F)) 𝒱₀ c none) Set.univ (k0_part54 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part54_spec m K c v2 O W Q

theorem part55_spec' (c : Dev nD) (v2 : BitVec 32) (v1387 : BitVec 32) (O : CellTallies nD τ sig Unit) (W : Waits sig Unit) (Q : (PUnit) → sProp 𝕄) :
    iprop(copyRes m K agS agR c 0 11
      ∗ outShareAt m c 0 11
      ∗ peerOutAt c 0 11
      ∗ copyRes m K agS agR c 0 12
      ∗ outShareAt m c 0 12
      ∗ peerOutAt c 0 12
      ∗ owes (c : Thread nD τ) (O + tallyAt (dmaCell (fwd c 12) agR 0 12) () Nc + tallyAt (dmaCell (fwd c 11) agR 0 11) () Nc) W
      ∗ (∀ r, (recvRes m K agS c 0 11 ∗ recvRes m K agS c 0 12 ∗ owes (c : Thread nD τ) (O) (W)) -∗ Q r))
      ⊢ wp frame (wpE (defs₀ (F := F)) 𝒱₀ c none) Set.univ (k0_part55 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1387) Q :=
  part55_spec m K c v2 v1387 O W Q

theorem part56_spec' (c : Dev nD) (v2 : BitVec 32) (O : CellTallies nD τ sig Unit) (W : Waits sig Unit) (Q : (BitVec 32) → sProp 𝕄) :
    iprop(copyRes m K agS agR c 0 13
      ∗ outShareAt m c 0 13
      ∗ peerOutAt c 0 13
      ∗ copyRes m K agS agR c 0 14
      ∗ outShareAt m c 0 14
      ∗ peerOutAt c 0 14
      ∗ copyRes m K agS agR c 0 15
      ∗ outShareAt m c 0 15
      ∗ peerOutAt c 0 15
      ∗ owes (c : Thread nD τ) (O + tallyAt (dmaCell (fwd c 15) agR 0 15) () Nc + tallyAt (dmaCell (fwd c 14) agR 0 14) () Nc + tallyAt (dmaCell (fwd c 13) agR 0 13) () Nc) W
      ∗ (∀ r, (recvRes m K agS c 0 13 ∗ recvRes m K agS c 0 14 ∗ recvRes m K agS c 0 15 ∗ owes (c : Thread nD τ) (O) (W)) -∗ Q r))
      ⊢ wp frame (wpE (defs₀ (F := F)) 𝒱₀ c none) Set.univ (k0_part56 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part56_spec m K c v2 O W Q

theorem part57_spec' (c : Dev nD) (v2 : BitVec 32) (c16_i32_1728 : BitVec 32) (O : CellTallies nD τ sig Unit) (W : Waits sig Unit) (Q : (BitVec 32) → sProp 𝕄) :
    iprop(copyRes m K agS agR c 0 16
      ∗ outShareAt m c 0 16
      ∗ peerOutAt c 0 16
      ∗ copyRes m K agS agR c 0 17
      ∗ outShareAt m c 0 17
      ∗ peerOutAt c 0 17
      ∗ owes (c : Thread nD τ) (O + tallyAt (dmaCell (fwd c 17) agR 0 17) () Nc + tallyAt (dmaCell (fwd c 16) agR 0 16) () Nc) W
      ∗ (∀ r, (recvRes m K agS c 0 16 ∗ recvRes m K agS c 0 17 ∗ owes (c : Thread nD τ) (O) (W)) -∗ Q r))
      ⊢ wp frame (wpE (defs₀ (F := F)) 𝒱₀ c none) Set.univ (k0_part57 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 c16_i32_1728) Q :=
  part57_spec m K c v2 c16_i32_1728 O W Q

theorem part58_spec' (c : Dev nD) (v2 : BitVec 32) (v1471 : BitVec 32) (O : CellTallies nD τ sig Unit) (W : Waits sig Unit) (Q : (PUnit) → sProp 𝕄) :
    iprop(copyRes m K agS agR c 0 18
      ∗ outShareAt m c 0 18
      ∗ peerOutAt c 0 18
      ∗ copyRes m K agS agR c 0 19
      ∗ outShareAt m c 0 19
      ∗ peerOutAt c 0 19
      ∗ owes (c : Thread nD τ) (O + tallyAt (dmaCell (fwd c 19) agR 0 19) () Nc + tallyAt (dmaCell (fwd c 18) agR 0 18) () Nc) W
      ∗ (∀ r, (recvRes m K agS c 0 18 ∗ recvRes m K agS c 0 19 ∗ owes (c : Thread nD τ) (O) (W)) -∗ Q r))
      ⊢ wp frame (wpE (defs₀ (F := F)) 𝒱₀ c none) Set.univ (k0_part58 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1471) Q :=
  part58_spec m K c v2 v1471 O W Q

theorem part59_spec' (c : Dev nD) (v2 : BitVec 32) (O : CellTallies nD τ sig Unit) (W : Waits sig Unit) (Q : (BitVec 32) → sProp 𝕄) :
    iprop(copyRes m K agS agR c 0 20
      ∗ outShareAt m c 0 20
      ∗ peerOutAt c 0 20
      ∗ copyRes m K agS agR c 0 21
      ∗ outShareAt m c 0 21
      ∗ peerOutAt c 0 21
      ∗ copyRes m K agS agR c 0 22
      ∗ outShareAt m c 0 22
      ∗ peerOutAt c 0 22
      ∗ owes (c : Thread nD τ) (O + tallyAt (dmaCell (fwd c 22) agR 0 22) () Nc + tallyAt (dmaCell (fwd c 21) agR 0 21) () Nc + tallyAt (dmaCell (fwd c 20) agR 0 20) () Nc) W
      ∗ (∀ r, (recvRes m K agS c 0 20 ∗ recvRes m K agS c 0 21 ∗ recvRes m K agS c 0 22 ∗ owes (c : Thread nD τ) (O) (W)) -∗ Q r))
      ⊢ wp frame (wpE (defs₀ (F := F)) 𝒱₀ c none) Set.univ (k0_part59 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part59_spec m K c v2 O W Q

theorem part60_spec' (c : Dev nD) (v2 : BitVec 32) (v1531 : BitVec 32) (O : CellTallies nD τ sig Unit) (W : Waits sig Unit) (Q : (PUnit) → sProp 𝕄) :
    iprop(copyRes m K agS agR c 0 23
      ∗ outShareAt m c 0 23
      ∗ peerOutAt c 0 23
      ∗ copyRes m K agS agR c 0 24
      ∗ outShareAt m c 0 24
      ∗ peerOutAt c 0 24
      ∗ owes (c : Thread nD τ) (O + tallyAt (dmaCell (fwd c 24) agR 0 24) () Nc + tallyAt (dmaCell (fwd c 23) agR 0 23) () Nc) W
      ∗ (∀ r, (recvRes m K agS c 0 23 ∗ recvRes m K agS c 0 24 ∗ owes (c : Thread nD τ) (O) (W)) -∗ Q r))
      ⊢ wp frame (wpE (defs₀ (F := F)) 𝒱₀ c none) Set.univ (k0_part60 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1531) Q :=
  part60_spec m K c v2 v1531 O W Q

theorem part61_spec' (c : Dev nD) (v2 : BitVec 32) (O : CellTallies nD τ sig Unit) (W : Waits sig Unit) (Q : (BitVec 32) → sProp 𝕄) :
    iprop(copyRes m K agS agR c 0 25
      ∗ outShareAt m c 0 25
      ∗ peerOutAt c 0 25
      ∗ copyRes m K agS agR c 0 26
      ∗ outShareAt m c 0 26
      ∗ peerOutAt c 0 26
      ∗ copyRes m K agS agR c 0 27
      ∗ outShareAt m c 0 27
      ∗ peerOutAt c 0 27
      ∗ owes (c : Thread nD τ) (O + tallyAt (dmaCell (fwd c 27) agR 0 27) () Nc + tallyAt (dmaCell (fwd c 26) agR 0 26) () Nc + tallyAt (dmaCell (fwd c 25) agR 0 25) () Nc) W
      ∗ (∀ r, (recvRes m K agS c 0 25 ∗ recvRes m K agS c 0 26 ∗ recvRes m K agS c 0 27 ∗ owes (c : Thread nD τ) (O) (W)) -∗ Q r))
      ⊢ wp frame (wpE (defs₀ (F := F)) 𝒱₀ c none) Set.univ (k0_part61 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part61_spec m K c v2 O W Q

theorem part62_spec' (c : Dev nD) (v2 : BitVec 32) (c28_i32_1872 : BitVec 32) (O : CellTallies nD τ sig Unit) (W : Waits sig Unit) (Q : (BitVec 32) → sProp 𝕄) :
    iprop(copyRes m K agS agR c 0 28
      ∗ outShareAt m c 0 28
      ∗ peerOutAt c 0 28
      ∗ copyRes m K agS agR c 0 29
      ∗ outShareAt m c 0 29
      ∗ peerOutAt c 0 29
      ∗ owes (c : Thread nD τ) (O + tallyAt (dmaCell (fwd c 29) agR 0 29) () Nc + tallyAt (dmaCell (fwd c 28) agR 0 28) () Nc) W
      ∗ (∀ r, (recvRes m K agS c 0 28 ∗ recvRes m K agS c 0 29 ∗ owes (c : Thread nD τ) (O) (W)) -∗ Q r))
      ⊢ wp frame (wpE (defs₀ (F := F)) 𝒱₀ c none) Set.univ (k0_part62 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 c28_i32_1872) Q :=
  part62_spec m K c v2 c28_i32_1872 O W Q

theorem part63_spec' (c : Dev nD) (v2 : BitVec 32) (v1615 : BitVec 32) (O : CellTallies nD τ sig Unit) (W : Waits sig Unit) (Q : (PUnit) → sProp 𝕄) :
    iprop(copyRes m K agS agR c 0 30
      ∗ outShareAt m c 0 30
      ∗ peerOutAt c 0 30
      ∗ copyRes m K agS agR c 0 31
      ∗ outShareAt m c 0 31
      ∗ peerOutAt c 0 31
      ∗ owes (c : Thread nD τ) (O + tallyAt (dmaCell (fwd c 31) agR 0 31) () Nc + tallyAt (dmaCell (fwd c 30) agR 0 30) () Nc) W
      ∗ (∀ r, (recvRes m K agS c 0 30 ∗ recvRes m K agS c 0 31 ∗ owes (c : Thread nD τ) (O) (W)) -∗ Q r))
      ⊢ wp frame (wpE (defs₀ (F := F)) 𝒱₀ c none) Set.univ (k0_part63 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v1615) Q :=
  part63_spec m K c v2 v1615 O W Q

theorem part64_spec' (c : Dev nD) (v2 : BitVec 32) (W : Waits sig Unit) (Q : (PUnit) → sProp 𝕄) :
    iprop(recvRes m K rsR c 1 1
      ∗ recvRes m K rsR c 1 2
      ∗ levAts L lv
      ∗ owes (c : Thread nD τ) (owedAfter c 124) W
      ∗ (∀ r, (gotRsR m c 1 1 ∗ closedAt m K c 1 1 rsR ∗ gotRsR m c 1 2 ∗ closedAt m K c 1 2 rsR ∗ owes (c : Thread nD τ) (owedAfter c 124) (insert (SemLoc.dma (semAt (arr rsR) 1 2), ()) (insert (SemLoc.dma (semAt (arr rsR) 1 1), ()) (W)))) -∗ Q r))
      ⊢ wp frame (wpE (defs₀ (F := F)) 𝒱₀ c none) Set.univ (k0_part64 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part64_spec m K c v2 W Q

theorem part65_spec' (c : Dev nD) (v2 : BitVec 32) (W : Waits sig Unit) (Q : (PUnit) → sProp 𝕄) :
    iprop(recvRes m K rsR c 1 3
      ∗ recvRes m K rsR c 1 4
      ∗ levAts L lv
      ∗ owes (c : Thread nD τ) (owedAfter c 124) W
      ∗ (∀ r, (gotRsR m c 1 3 ∗ closedAt m K c 1 3 rsR ∗ gotRsR m c 1 4 ∗ closedAt m K c 1 4 rsR ∗ owes (c : Thread nD τ) (owedAfter c 124) (insert (SemLoc.dma (semAt (arr rsR) 1 4), ()) (insert (SemLoc.dma (semAt (arr rsR) 1 3), ()) (W)))) -∗ Q r))
      ⊢ wp frame (wpE (defs₀ (F := F)) 𝒱₀ c none) Set.univ (k0_part65 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part65_spec m K c v2 W Q

theorem part66_spec' (c : Dev nD) (v2 : BitVec 32) (W : Waits sig Unit) (Q : (PUnit) → sProp 𝕄) :
    iprop(recvRes m K rsR c 1 5
      ∗ recvRes m K rsR c 1 6
      ∗ levAts L lv
      ∗ owes (c : Thread nD τ) (owedAfter c 124) W
      ∗ (∀ r, (gotRsR m c 1 5 ∗ closedAt m K c 1 5 rsR ∗ gotRsR m c 1 6 ∗ closedAt m K c 1 6 rsR ∗ owes (c : Thread nD τ) (owedAfter c 124) (insert (SemLoc.dma (semAt (arr rsR) 1 6), ()) (insert (SemLoc.dma (semAt (arr rsR) 1 5), ()) (W)))) -∗ Q r))
      ⊢ wp frame (wpE (defs₀ (F := F)) 𝒱₀ c none) Set.univ (k0_part66 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part66_spec m K c v2 W Q

theorem part67_spec' (c : Dev nD) (v2 : BitVec 32) (W : Waits sig Unit) (Q : (PUnit) → sProp 𝕄) :
    iprop(recvRes m K rsR c 1 7
      ∗ recvRes m K rsR c 1 8
      ∗ recvRes m K rsR c 1 9
      ∗ levAts L lv
      ∗ owes (c : Thread nD τ) (owedAfter c 124) W
      ∗ (∀ r, (gotRsR m c 1 7 ∗ closedAt m K c 1 7 rsR ∗ gotRsR m c 1 8 ∗ closedAt m K c 1 8 rsR ∗ gotRsR m c 1 9 ∗ closedAt m K c 1 9 rsR ∗ owes (c : Thread nD τ) (owedAfter c 124) (insert (SemLoc.dma (semAt (arr rsR) 1 9), ()) (insert (SemLoc.dma (semAt (arr rsR) 1 8), ()) (insert (SemLoc.dma (semAt (arr rsR) 1 7), ()) (W))))) -∗ Q r))
      ⊢ wp frame (wpE (defs₀ (F := F)) 𝒱₀ c none) Set.univ (k0_part67 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part67_spec m K c v2 W Q

theorem part68_spec' (c : Dev nD) (v2 : BitVec 32) (W : Waits sig Unit) (Q : (BitVec 32) → sProp 𝕄) :
    iprop(recvRes m K rsR c 1 10
      ∗ recvRes m K rsR c 1 11
      ∗ levAts L lv
      ∗ owes (c : Thread nD τ) (owedAfter c 124) W
      ∗ (∀ r, (gotRsR m c 1 10 ∗ closedAt m K c 1 10 rsR ∗ gotRsR m c 1 11 ∗ closedAt m K c 1 11 rsR ∗ owes (c : Thread nD τ) (owedAfter c 124) (insert (SemLoc.dma (semAt (arr rsR) 1 11), ()) (insert (SemLoc.dma (semAt (arr rsR) 1 10), ()) (W)))) -∗ Q r))
      ⊢ wp frame (wpE (defs₀ (F := F)) 𝒱₀ c none) Set.univ (k0_part68 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part68_spec m K c v2 W Q

theorem part69_spec' (c : Dev nD) (v2 : BitVec 32) (v1759 : BitVec 32) (W : Waits sig Unit) (Q : (BitVec 32) → sProp 𝕄) :
    iprop(recvRes m K rsR c 1 12
      ∗ recvRes m K rsR c 1 13
      ∗ levAts L lv
      ∗ owes (c : Thread nD τ) (owedAfter c 124) W
      ∗ (∀ r, (gotRsR m c 1 12 ∗ closedAt m K c 1 12 rsR ∗ gotRsR m c 1 13 ∗ closedAt m K c 1 13 rsR ∗ owes (c : Thread nD τ) (owedAfter c 124) (insert (SemLoc.dma (semAt (arr rsR) 1 13), ()) (insert (SemLoc.dma (semAt (arr rsR) 1 12), ()) (W)))) -∗ Q r))
      ⊢ wp frame (wpE (defs₀ (F := F)) 𝒱₀ c none) Set.univ (k0_part69 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1759) Q :=
  part69_spec m K c v2 v1759 W Q

theorem part70_spec' (c : Dev nD) (v2 : BitVec 32) (v1782 : BitVec 32) (W : Waits sig Unit) (Q : (BitVec 32) → sProp 𝕄) :
    iprop(recvRes m K rsR c 1 14
      ∗ recvRes m K rsR c 1 15
      ∗ levAts L lv
      ∗ owes (c : Thread nD τ) (owedAfter c 124) W
      ∗ (∀ r, (gotRsR m c 1 14 ∗ closedAt m K c 1 14 rsR ∗ gotRsR m c 1 15 ∗ closedAt m K c 1 15 rsR ∗ owes (c : Thread nD τ) (owedAfter c 124) (insert (SemLoc.dma (semAt (arr rsR) 1 15), ()) (insert (SemLoc.dma (semAt (arr rsR) 1 14), ()) (W)))) -∗ Q r))
      ⊢ wp frame (wpE (defs₀ (F := F)) 𝒱₀ c none) Set.univ (k0_part70 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1782) Q :=
  part70_spec m K c v2 v1782 W Q

theorem part71_spec' (c : Dev nD) (v2 : BitVec 32) (v1805 : BitVec 32) (W : Waits sig Unit) (Q : (BitVec 32) → sProp 𝕄) :
    iprop(recvRes m K rsR c 1 16
      ∗ recvRes m K rsR c 1 17
      ∗ levAts L lv
      ∗ owes (c : Thread nD τ) (owedAfter c 124) W
      ∗ (∀ r, (gotRsR m c 1 16 ∗ closedAt m K c 1 16 rsR ∗ gotRsR m c 1 17 ∗ closedAt m K c 1 17 rsR ∗ owes (c : Thread nD τ) (owedAfter c 124) (insert (SemLoc.dma (semAt (arr rsR) 1 17), ()) (insert (SemLoc.dma (semAt (arr rsR) 1 16), ()) (W)))) -∗ Q r))
      ⊢ wp frame (wpE (defs₀ (F := F)) 𝒱₀ c none) Set.univ (k0_part71 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1805) Q :=
  part71_spec m K c v2 v1805 W Q

theorem part72_spec' (c : Dev nD) (v2 : BitVec 32) (v1827 : BitVec 32) (W : Waits sig Unit) (Q : (BitVec 32) → sProp 𝕄) :
    iprop(recvRes m K rsR c 1 18
      ∗ recvRes m K rsR c 1 19
      ∗ levAts L lv
      ∗ owes (c : Thread nD τ) (owedAfter c 124) W
      ∗ (∀ r, (gotRsR m c 1 18 ∗ closedAt m K c 1 18 rsR ∗ gotRsR m c 1 19 ∗ closedAt m K c 1 19 rsR ∗ owes (c : Thread nD τ) (owedAfter c 124) (insert (SemLoc.dma (semAt (arr rsR) 1 19), ()) (insert (SemLoc.dma (semAt (arr rsR) 1 18), ()) (W)))) -∗ Q r))
      ⊢ wp frame (wpE (defs₀ (F := F)) 𝒱₀ c none) Set.univ (k0_part72 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1827) Q :=
  part72_spec m K c v2 v1827 W Q

theorem part73_spec' (c : Dev nD) (v2 : BitVec 32) (v1849 : BitVec 32) (W : Waits sig Unit) (Q : (BitVec 32) → sProp 𝕄) :
    iprop(recvRes m K rsR c 1 20
      ∗ recvRes m K rsR c 1 21
      ∗ levAts L lv
      ∗ owes (c : Thread nD τ) (owedAfter c 124) W
      ∗ (∀ r, (gotRsR m c 1 20 ∗ closedAt m K c 1 20 rsR ∗ gotRsR m c 1 21 ∗ closedAt m K c 1 21 rsR ∗ owes (c : Thread nD τ) (owedAfter c 124) (insert (SemLoc.dma (semAt (arr rsR) 1 21), ()) (insert (SemLoc.dma (semAt (arr rsR) 1 20), ()) (W)))) -∗ Q r))
      ⊢ wp frame (wpE (defs₀ (F := F)) 𝒱₀ c none) Set.univ (k0_part73 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1849) Q :=
  part73_spec m K c v2 v1849 W Q

theorem part74_spec' (c : Dev nD) (v2 : BitVec 32) (v1871 : BitVec 32) (W : Waits sig Unit) (Q : (BitVec 32) → sProp 𝕄) :
    iprop(recvRes m K rsR c 1 22
      ∗ recvRes m K rsR c 1 23
      ∗ levAts L lv
      ∗ owes (c : Thread nD τ) (owedAfter c 124) W
      ∗ (∀ r, (gotRsR m c 1 22 ∗ closedAt m K c 1 22 rsR ∗ gotRsR m c 1 23 ∗ closedAt m K c 1 23 rsR ∗ owes (c : Thread nD τ) (owedAfter c 124) (insert (SemLoc.dma (semAt (arr rsR) 1 23), ()) (insert (SemLoc.dma (semAt (arr rsR) 1 22), ()) (W)))) -∗ Q r))
      ⊢ wp frame (wpE (defs₀ (F := F)) 𝒱₀ c none) Set.univ (k0_part74 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1871) Q :=
  part74_spec m K c v2 v1871 W Q

theorem part75_spec' (c : Dev nD) (v2 : BitVec 32) (v1893 : BitVec 32) (W : Waits sig Unit) (Q : (BitVec 32) → sProp 𝕄) :
    iprop(recvRes m K rsR c 1 24
      ∗ recvRes m K rsR c 1 25
      ∗ levAts L lv
      ∗ owes (c : Thread nD τ) (owedAfter c 124) W
      ∗ (∀ r, (gotRsR m c 1 24 ∗ closedAt m K c 1 24 rsR ∗ gotRsR m c 1 25 ∗ closedAt m K c 1 25 rsR ∗ owes (c : Thread nD τ) (owedAfter c 124) (insert (SemLoc.dma (semAt (arr rsR) 1 25), ()) (insert (SemLoc.dma (semAt (arr rsR) 1 24), ()) (W)))) -∗ Q r))
      ⊢ wp frame (wpE (defs₀ (F := F)) 𝒱₀ c none) Set.univ (k0_part75 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1893) Q :=
  part75_spec m K c v2 v1893 W Q

theorem part76_spec' (c : Dev nD) (v2 : BitVec 32) (v1916 : BitVec 32) (W : Waits sig Unit) (Q : (PUnit) → sProp 𝕄) :
    iprop(recvRes m K rsR c 1 26
      ∗ recvRes m K rsR c 1 27
      ∗ levAts L lv
      ∗ owes (c : Thread nD τ) (owedAfter c 124) W
      ∗ (∀ r, (gotRsR m c 1 26 ∗ closedAt m K c 1 26 rsR ∗ gotRsR m c 1 27 ∗ closedAt m K c 1 27 rsR ∗ owes (c : Thread nD τ) (owedAfter c 124) (insert (SemLoc.dma (semAt (arr rsR) 1 27), ()) (insert (SemLoc.dma (semAt (arr rsR) 1 26), ()) (W)))) -∗ Q r))
      ⊢ wp frame (wpE (defs₀ (F := F)) 𝒱₀ c none) Set.univ (k0_part76 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v1916) Q :=
  part76_spec m K c v2 v1916 W Q

theorem part77_spec' (c : Dev nD) (v2 : BitVec 32) (W : Waits sig Unit) (Q : (PUnit) → sProp 𝕄) :
    iprop(recvRes m K rsR c 1 28
      ∗ recvRes m K rsR c 1 29
      ∗ levAts L lv
      ∗ owes (c : Thread nD τ) (owedAfter c 124) W
      ∗ (∀ r, (gotRsR m c 1 28 ∗ closedAt m K c 1 28 rsR ∗ gotRsR m c 1 29 ∗ closedAt m K c 1 29 rsR ∗ owes (c : Thread nD τ) (owedAfter c 124) (insert (SemLoc.dma (semAt (arr rsR) 1 29), ()) (insert (SemLoc.dma (semAt (arr rsR) 1 28), ()) (W)))) -∗ Q r))
      ⊢ wp frame (wpE (defs₀ (F := F)) 𝒱₀ c none) Set.univ (k0_part77 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part77_spec m K c v2 W Q

theorem part80_spec' (c : Dev nD) (v2 : BitVec 32) (O : CellTallies nD τ sig Unit) (W : Waits sig Unit) (Q : (Σ' (v2051 : BitVec 32), BitVec 32) → sProp 𝕄) :
    iprop(copyRes m K agS agR c 1 2
      ∗ outShareAt m c 1 2
      ∗ peerOutAt c 1 2
      ∗ copyRes m K agS agR c 1 3
      ∗ outShareAt m c 1 3
      ∗ peerOutAt c 1 3
      ∗ copyRes m K agS agR c 1 4
      ∗ outShareAt m c 1 4
      ∗ peerOutAt c 1 4
      ∗ owes (c : Thread nD τ) (O + tallyAt (dmaCell (fwd c 4) agR 1 4) () Nc + tallyAt (dmaCell (fwd c 3) agR 1 3) () Nc + tallyAt (dmaCell (fwd c 2) agR 1 2) () Nc) W
      ∗ (∀ r, (recvRes m K agS c 1 2 ∗ recvRes m K agS c 1 3 ∗ recvRes m K agS c 1 4 ∗ owes (c : Thread nD τ) (O) (W)) -∗ Q r))
      ⊢ wp frame (wpE (defs₀ (F := F)) 𝒱₀ c none) Set.univ (k0_part80 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part80_spec m K c v2 O W Q

theorem part81_spec' (c : Dev nD) (v2 : BitVec 32) (v2051 : BitVec 32) (c32_i32_2509 : BitVec 32) (O : CellTallies nD τ sig Unit) (W : Waits sig Unit) (Q : (PUnit) → sProp 𝕄) :
    iprop(copyRes m K agS agR c 1 5
      ∗ outShareAt m c 1 5
      ∗ peerOutAt c 1 5
      ∗ copyRes m K agS agR c 1 6
      ∗ outShareAt m c 1 6
      ∗ peerOutAt c 1 6
      ∗ owes (c : Thread nD τ) (O + tallyAt (dmaCell (fwd c 6) agR 1 6) () Nc + tallyAt (dmaCell (fwd c 5) agR 1 5) () Nc) W
      ∗ (∀ r, (recvRes m K agS c 1 5 ∗ recvRes m K agS c 1 6 ∗ owes (c : Thread nD τ) (O) (W)) -∗ Q r))
      ⊢ wp frame (wpE (defs₀ (F := F)) 𝒱₀ c none) Set.univ (k0_part81 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2051 c32_i32_2509) Q :=
  part81_spec m K c v2 v2051 c32_i32_2509 O W Q

theorem part82_spec' (c : Dev nD) (v2 : BitVec 32) (O : CellTallies nD τ sig Unit) (W : Waits sig Unit) (Q : (BitVec 32) → sProp 𝕄) :
    iprop(copyRes m K agS agR c 1 7
      ∗ outShareAt m c 1 7
      ∗ peerOutAt c 1 7
      ∗ copyRes m K agS agR c 1 8
      ∗ outShareAt m c 1 8
      ∗ peerOutAt c 1 8
      ∗ copyRes m K agS agR c 1 9
      ∗ outShareAt m c 1 9
      ∗ peerOutAt c 1 9
      ∗ owes (c : Thread nD τ) (O + tallyAt (dmaCell (fwd c 9) agR 1 9) () Nc + tallyAt (dmaCell (fwd c 8) agR 1 8) () Nc + tallyAt (dmaCell (fwd c 7) agR 1 7) () Nc) W
      ∗ (∀ r, (recvRes m K agS c 1 7 ∗ recvRes m K agS c 1 8 ∗ recvRes m K agS c 1 9 ∗ owes (c : Thread nD τ) (O) (W)) -∗ Q r))
      ⊢ wp frame (wpE (defs₀ (F := F)) 𝒱₀ c none) Set.univ (k0_part82 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part82_spec m K c v2 O W Q

theorem part83_spec' (c : Dev nD) (v2 : BitVec 32) (v2110 : BitVec 32) (O : CellTallies nD τ sig Unit) (W : Waits sig Unit) (Q : (BitVec 32) → sProp 𝕄) :
    iprop(copyRes m K agS agR c 1 10
      ∗ outShareAt m c 1 10
      ∗ peerOutAt c 1 10
      ∗ copyRes m K agS agR c 1 11
      ∗ outShareAt m c 1 11
      ∗ peerOutAt c 1 11
      ∗ owes (c : Thread nD τ) (O + tallyAt (dmaCell (fwd c 11) agR 1 11) () Nc + tallyAt (dmaCell (fwd c 10) agR 1 10) () Nc) W
      ∗ (∀ r, (recvRes m K agS c 1 10 ∗ recvRes m K agS c 1 11 ∗ owes (c : Thread nD τ) (O) (W)) -∗ Q r))
      ⊢ wp frame (wpE (defs₀ (F := F)) 𝒱₀ c none) Set.univ (k0_part83 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2110) Q :=
  part83_spec m K c v2 v2110 O W Q

theorem part84_spec' (c : Dev nD) (v2 : BitVec 32) (v2135 : BitVec 32) (O : CellTallies nD τ sig Unit) (W : Waits sig Unit) (Q : (PUnit) → sProp 𝕄) :
    iprop(copyRes m K agS agR c 1 12
      ∗ outShareAt m c 1 12
      ∗ peerOutAt c 1 12
      ∗ copyRes m K agS agR c 1 13
      ∗ outShareAt m c 1 13
      ∗ peerOutAt c 1 13
      ∗ owes (c : Thread nD τ) (O + tallyAt (dmaCell (fwd c 13) agR 1 13) () Nc + tallyAt (dmaCell (fwd c 12) agR 1 12) () Nc) W
      ∗ (∀ r, (recvRes m K agS c 1 12 ∗ recvRes m K agS c 1 13 ∗ owes (c : Thread nD τ) (O) (W)) -∗ Q r))
      ⊢ wp frame (wpE (defs₀ (F := F)) 𝒱₀ c none) Set.univ (k0_part84 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2135) Q :=
  part84_spec m K c v2 v2135 O W Q

theorem part85_spec' (c : Dev nD) (v2 : BitVec 32) (O : CellTallies nD τ sig Unit) (W : Waits sig Unit) (Q : (Σ' (v2195 : BitVec 32), BitVec 32) → sProp 𝕄) :
    iprop(copyRes m K agS agR c 1 14
      ∗ outShareAt m c 1 14
      ∗ peerOutAt c 1 14
      ∗ copyRes m K agS agR c 1 15
      ∗ outShareAt m c 1 15
      ∗ peerOutAt c 1 15
      ∗ copyRes m K agS agR c 1 16
      ∗ outShareAt m c 1 16
      ∗ peerOutAt c 1 16
      ∗ owes (c : Thread nD τ) (O + tallyAt (dmaCell (fwd c 16) agR 1 16) () Nc + tallyAt (dmaCell (fwd c 15) agR 1 15) () Nc + tallyAt (dmaCell (fwd c 14) agR 1 14) () Nc) W
      ∗ (∀ r, (recvRes m K agS c 1 14 ∗ recvRes m K agS c 1 15 ∗ recvRes m K agS c 1 16 ∗ owes (c : Thread nD τ) (O) (W)) -∗ Q r))
      ⊢ wp frame (wpE (defs₀ (F := F)) 𝒱₀ c none) Set.univ (k0_part85 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part85_spec m K c v2 O W Q

theorem part86_spec' (c : Dev nD) (v2 : BitVec 32) (v2195 : BitVec 32) (c32_i32_2653 : BitVec 32) (O : CellTallies nD τ sig Unit) (W : Waits sig Unit) (Q : (PUnit) → sProp 𝕄) :
    iprop(copyRes m K agS agR c 1 17
      ∗ outShareAt m c 1 17
      ∗ peerOutAt c 1 17
      ∗ copyRes m K agS agR c 1 18
      ∗ outShareAt m c 1 18
      ∗ peerOutAt c 1 18
      ∗ owes (c : Thread nD τ) (O + tallyAt (dmaCell (fwd c 18) agR 1 18) () Nc + tallyAt (dmaCell (fwd c 17) agR 1 17) () Nc) W
      ∗ (∀ r, (recvRes m K agS c 1 17 ∗ recvRes m K agS c 1 18 ∗ owes (c : Thread nD τ) (O) (W)) -∗ Q r))
      ⊢ wp frame (wpE (defs₀ (F := F)) 𝒱₀ c none) Set.univ (k0_part86 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2195 c32_i32_2653) Q :=
  part86_spec m K c v2 v2195 c32_i32_2653 O W Q

theorem part87_spec' (c : Dev nD) (v2 : BitVec 32) (O : CellTallies nD τ sig Unit) (W : Waits sig Unit) (Q : (BitVec 32) → sProp 𝕄) :
    iprop(copyRes m K agS agR c 1 19
      ∗ outShareAt m c 1 19
      ∗ peerOutAt c 1 19
      ∗ copyRes m K agS agR c 1 20
      ∗ outShareAt m c 1 20
      ∗ peerOutAt c 1 20
      ∗ copyRes m K agS agR c 1 21
      ∗ outShareAt m c 1 21
      ∗ peerOutAt c 1 21
      ∗ owes (c : Thread nD τ) (O + tallyAt (dmaCell (fwd c 21) agR 1 21) () Nc + tallyAt (dmaCell (fwd c 20) agR 1 20) () Nc + tallyAt (dmaCell (fwd c 19) agR 1 19) () Nc) W
      ∗ (∀ r, (recvRes m K agS c 1 19 ∗ recvRes m K agS c 1 20 ∗ recvRes m K agS c 1 21 ∗ owes (c : Thread nD τ) (O) (W)) -∗ Q r))
      ⊢ wp frame (wpE (defs₀ (F := F)) 𝒱₀ c none) Set.univ (k0_part87 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part87_spec m K c v2 O W Q

theorem part88_spec' (c : Dev nD) (v2 : BitVec 32) (v2254 : BitVec 32) (O : CellTallies nD τ sig Unit) (W : Waits sig Unit) (Q : (BitVec 32) → sProp 𝕄) :
    iprop(copyRes m K agS agR c 1 22
      ∗ outShareAt m c 1 22
      ∗ peerOutAt c 1 22
      ∗ copyRes m K agS agR c 1 23
      ∗ outShareAt m c 1 23
      ∗ peerOutAt c 1 23
      ∗ owes (c : Thread nD τ) (O + tallyAt (dmaCell (fwd c 23) agR 1 23) () Nc + tallyAt (dmaCell (fwd c 22) agR 1 22) () Nc) W
      ∗ (∀ r, (recvRes m K agS c 1 22 ∗ recvRes m K agS c 1 23 ∗ owes (c : Thread nD τ) (O) (W)) -∗ Q r))
      ⊢ wp frame (wpE (defs₀ (F := F)) 𝒱₀ c none) Set.univ (k0_part88 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2254) Q :=
  part88_spec m K c v2 v2254 O W Q

theorem part89_spec' (c : Dev nD) (v2 : BitVec 32) (v2279 : BitVec 32) (O : CellTallies nD τ sig Unit) (W : Waits sig Unit) (Q : (PUnit) → sProp 𝕄) :
    iprop(copyRes m K agS agR c 1 24
      ∗ outShareAt m c 1 24
      ∗ peerOutAt c 1 24
      ∗ copyRes m K agS agR c 1 25
      ∗ outShareAt m c 1 25
      ∗ peerOutAt c 1 25
      ∗ owes (c : Thread nD τ) (O + tallyAt (dmaCell (fwd c 25) agR 1 25) () Nc + tallyAt (dmaCell (fwd c 24) agR 1 24) () Nc) W
      ∗ (∀ r, (recvRes m K agS c 1 24 ∗ recvRes m K agS c 1 25 ∗ owes (c : Thread nD τ) (O) (W)) -∗ Q r))
      ⊢ wp frame (wpE (defs₀ (F := F)) 𝒱₀ c none) Set.univ (k0_part89 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2279) Q :=
  part89_spec m K c v2 v2279 O W Q

theorem part90_spec' (c : Dev nD) (v2 : BitVec 32) (O : CellTallies nD τ sig Unit) (W : Waits sig Unit) (Q : (Σ' (v2339 : BitVec 32), BitVec 32) → sProp 𝕄) :
    iprop(copyRes m K agS agR c 1 26
      ∗ outShareAt m c 1 26
      ∗ peerOutAt c 1 26
      ∗ copyRes m K agS agR c 1 27
      ∗ outShareAt m c 1 27
      ∗ peerOutAt c 1 27
      ∗ copyRes m K agS agR c 1 28
      ∗ outShareAt m c 1 28
      ∗ peerOutAt c 1 28
      ∗ owes (c : Thread nD τ) (O + tallyAt (dmaCell (fwd c 28) agR 1 28) () Nc + tallyAt (dmaCell (fwd c 27) agR 1 27) () Nc + tallyAt (dmaCell (fwd c 26) agR 1 26) () Nc) W
      ∗ (∀ r, (recvRes m K agS c 1 26 ∗ recvRes m K agS c 1 27 ∗ recvRes m K agS c 1 28 ∗ owes (c : Thread nD τ) (O) (W)) -∗ Q r))
      ⊢ wp frame (wpE (defs₀ (F := F)) 𝒱₀ c none) Set.univ (k0_part90 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part90_spec m K c v2 O W Q

theorem part91_spec' (c : Dev nD) (v2 : BitVec 32) (v2339 : BitVec 32) (c32_i32_2797 : BitVec 32) (O : CellTallies nD τ sig Unit) (W : Waits sig Unit) (Q : (PUnit) → sProp 𝕄) :
    iprop(copyRes m K agS agR c 1 29
      ∗ outShareAt m c 1 29
      ∗ peerOutAt c 1 29
      ∗ copyRes m K agS agR c 1 30
      ∗ outShareAt m c 1 30
      ∗ peerOutAt c 1 30
      ∗ owes (c : Thread nD τ) (O + tallyAt (dmaCell (fwd c 30) agR 1 30) () Nc + tallyAt (dmaCell (fwd c 29) agR 1 29) () Nc) W
      ∗ (∀ r, (recvRes m K agS c 1 29 ∗ recvRes m K agS c 1 30 ∗ owes (c : Thread nD τ) (O) (W)) -∗ Q r))
      ⊢ wp frame (wpE (defs₀ (F := F)) 𝒱₀ c none) Set.univ (k0_part91 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2339 c32_i32_2797) Q :=
  part91_spec m K c v2 v2339 c32_i32_2797 O W Q

theorem part92_spec' (c : Dev nD) (O : CellTallies nD τ sig Unit) (hmw1 : (levAts L lv : sProp 𝕄) ⊢ MayWait (c : Thread nD τ) (.dma (semAt (arr rsS) 0 1)) () O) (hmw2 : (levAts L lv : sProp 𝕄) ⊢ MayWait (c : Thread nD τ) (.dma (semAt (arr rsS) 0 2)) () O) (hmw3 : (levAts L lv : sProp 𝕄) ⊢ MayWait (c : Thread nD τ) (.dma (semAt (arr rsS) 0 3)) () O) (W : Waits sig Unit) (Q : (PUnit) → sProp 𝕄) :
    iprop(copyRes m K agS agR c 1 31
      ∗ outShareAt m c 1 31
      ∗ peerOutAt c 1 31
      ∗ recvRes m K rsS c 0 1
      ∗ recvRes m K rsS c 0 2
      ∗ recvRes m K rsS c 0 3
      ∗ levAts L lv
      ∗ owes (c : Thread nD τ) (O + tallyAt (dmaCell (fwd c 31) agR 1 31) () Nc) W
      ∗ (∀ r, (recvRes m K agS c 1 31 ∗ accSrcAt m c 0 1 ∗ closedAt m K c 0 1 rsS ∗ accSrcAt m c 0 2 ∗ closedAt m K c 0 2 rsS ∗ accSrcAt m c 0 3 ∗ closedAt m K c 0 3 rsS ∗ owes (c : Thread nD τ) (O) (insert (SemLoc.dma (semAt (arr rsS) 0 3), ()) (insert (SemLoc.dma (semAt (arr rsS) 0 2), ()) (insert (SemLoc.dma (semAt (arr rsS) 0 1), ()) (W))))) -∗ Q r))
      ⊢ wp frame (wpE (defs₀ (F := F)) 𝒱₀ c none) Set.univ (k0_part92 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part92_spec m K c O hmw1 hmw2 hmw3 W Q

theorem part93_spec' (c : Dev nD) (W : Waits sig Unit) (Q : (PUnit) → sProp 𝕄) :
    iprop(recvRes m K rsS c 0 4
      ∗ recvRes m K rsS c 0 5
      ∗ recvRes m K rsS c 0 6
      ∗ recvRes m K rsS c 0 7
      ∗ levAts L lv
      ∗ owes (c : Thread nD τ) (owedAfter c 155) W
      ∗ (∀ r, (accSrcAt m c 0 4 ∗ closedAt m K c 0 4 rsS ∗ accSrcAt m c 0 5 ∗ closedAt m K c 0 5 rsS ∗ accSrcAt m c 0 6 ∗ closedAt m K c 0 6 rsS ∗ accSrcAt m c 0 7 ∗ closedAt m K c 0 7 rsS ∗ owes (c : Thread nD τ) (owedAfter c 155) (insert (SemLoc.dma (semAt (arr rsS) 0 7), ()) (insert (SemLoc.dma (semAt (arr rsS) 0 6), ()) (insert (SemLoc.dma (semAt (arr rsS) 0 5), ()) (insert (SemLoc.dma (semAt (arr rsS) 0 4), ()) (W)))))) -∗ Q r))
      ⊢ wp frame (wpE (defs₀ (F := F)) 𝒱₀ c none) Set.univ (k0_part93 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part93_spec m K c W Q

theorem part94_spec' (c : Dev nD) (W : Waits sig Unit) (Q : (PUnit) → sProp 𝕄) :
    iprop(recvRes m K rsS c 0 8
      ∗ recvRes m K rsS c 0 9
      ∗ recvRes m K rsS c 0 10
      ∗ levAts L lv
      ∗ owes (c : Thread nD τ) (owedAfter c 155) W
      ∗ (∀ r, (accSrcAt m c 0 8 ∗ closedAt m K c 0 8 rsS ∗ accSrcAt m c 0 9 ∗ closedAt m K c 0 9 rsS ∗ accSrcAt m c 0 10 ∗ closedAt m K c 0 10 rsS ∗ owes (c : Thread nD τ) (owedAfter c 155) (insert (SemLoc.dma (semAt (arr rsS) 0 10), ()) (insert (SemLoc.dma (semAt (arr rsS) 0 9), ()) (insert (SemLoc.dma (semAt (arr rsS) 0 8), ()) (W))))) -∗ Q r))
      ⊢ wp frame (wpE (defs₀ (F := F)) 𝒱₀ c none) Set.univ (k0_part94 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part94_spec m K c W Q

theorem part95_spec' (c : Dev nD) (W : Waits sig Unit) (Q : (PUnit) → sProp 𝕄) :
    iprop(recvRes m K rsS c 0 11
      ∗ recvRes m K rsS c 0 12
      ∗ recvRes m K rsS c 0 13
      ∗ recvRes m K rsS c 0 14
      ∗ levAts L lv
      ∗ owes (c : Thread nD τ) (owedAfter c 155) W
      ∗ (∀ r, (accSrcAt m c 0 11 ∗ closedAt m K c 0 11 rsS ∗ accSrcAt m c 0 12 ∗ closedAt m K c 0 12 rsS ∗ accSrcAt m c 0 13 ∗ closedAt m K c 0 13 rsS ∗ accSrcAt m c 0 14 ∗ closedAt m K c 0 14 rsS ∗ owes (c : Thread nD τ) (owedAfter c 155) (insert (SemLoc.dma (semAt (arr rsS) 0 14), ()) (insert (SemLoc.dma (semAt (arr rsS) 0 13), ()) (insert (SemLoc.dma (semAt (arr rsS) 0 12), ()) (insert (SemLoc.dma (semAt (arr rsS) 0 11), ()) (W)))))) -∗ Q r))
      ⊢ wp frame (wpE (defs₀ (F := F)) 𝒱₀ c none) Set.univ (k0_part95 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part95_spec m K c W Q

theorem part96_spec' (c : Dev nD) (W : Waits sig Unit) (Q : (PUnit) → sProp 𝕄) :
    iprop(recvRes m K rsS c 0 15
      ∗ recvRes m K rsS c 0 16
      ∗ recvRes m K rsS c 0 17
      ∗ recvRes m K rsS c 0 18
      ∗ levAts L lv
      ∗ owes (c : Thread nD τ) (owedAfter c 155) W
      ∗ (∀ r, (accSrcAt m c 0 15 ∗ closedAt m K c 0 15 rsS ∗ accSrcAt m c 0 16 ∗ closedAt m K c 0 16 rsS ∗ accSrcAt m c 0 17 ∗ closedAt m K c 0 17 rsS ∗ accSrcAt m c 0 18 ∗ closedAt m K c 0 18 rsS ∗ owes (c : Thread nD τ) (owedAfter c 155) (insert (SemLoc.dma (semAt (arr rsS) 0 18), ()) (insert (SemLoc.dma (semAt (arr rsS) 0 17), ()) (insert (SemLoc.dma (semAt (arr rsS) 0 16), ()) (insert (SemLoc.dma (semAt (arr rsS) 0 15), ()) (W)))))) -∗ Q r))
      ⊢ wp frame (wpE (defs₀ (F := F)) 𝒱₀ c none) Set.univ (k0_part96 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part96_spec m K c W Q

theorem part97_spec' (c : Dev nD) (W : Waits sig Unit) (Q : (PUnit) → sProp 𝕄) :
    iprop(recvRes m K rsS c 0 19
      ∗ recvRes m K rsS c 0 20
      ∗ recvRes m K rsS c 0 21
      ∗ recvRes m K rsS c 0 22
      ∗ levAts L lv
      ∗ owes (c : Thread nD τ) (owedAfter c 155) W
      ∗ (∀ r, (accSrcAt m c 0 19 ∗ closedAt m K c 0 19 rsS ∗ accSrcAt m c 0 20 ∗ closedAt m K c 0 20 rsS ∗ accSrcAt m c 0 21 ∗ closedAt m K c 0 21 rsS ∗ accSrcAt m c 0 22 ∗ closedAt m K c 0 22 rsS ∗ owes (c : Thread nD τ) (owedAfter c 155) (insert (SemLoc.dma (semAt (arr rsS) 0 22), ()) (insert (SemLoc.dma (semAt (arr rsS) 0 21), ()) (insert (SemLoc.dma (semAt (arr rsS) 0 20), ()) (insert (SemLoc.dma (semAt (arr rsS) 0 19), ()) (W)))))) -∗ Q r))
      ⊢ wp frame (wpE (defs₀ (F := F)) 𝒱₀ c none) Set.univ (k0_part97 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part97_spec m K c W Q

theorem part98_spec' (c : Dev nD) (W : Waits sig Unit) (Q : (PUnit) → sProp 𝕄) :
    iprop(recvRes m K rsS c 0 23
      ∗ recvRes m K rsS c 0 24
      ∗ recvRes m K rsS c 0 25
      ∗ levAts L lv
      ∗ owes (c : Thread nD τ) (owedAfter c 155) W
      ∗ (∀ r, (accSrcAt m c 0 23 ∗ closedAt m K c 0 23 rsS ∗ accSrcAt m c 0 24 ∗ closedAt m K c 0 24 rsS ∗ accSrcAt m c 0 25 ∗ closedAt m K c 0 25 rsS ∗ owes (c : Thread nD τ) (owedAfter c 155) (insert (SemLoc.dma (semAt (arr rsS) 0 25), ()) (insert (SemLoc.dma (semAt (arr rsS) 0 24), ()) (insert (SemLoc.dma (semAt (arr rsS) 0 23), ()) (W))))) -∗ Q r))
      ⊢ wp frame (wpE (defs₀ (F := F)) 𝒱₀ c none) Set.univ (k0_part98 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part98_spec m K c W Q

theorem part99_spec' (c : Dev nD) (W : Waits sig Unit) (Q : (PUnit) → sProp 𝕄) :
    iprop(recvRes m K rsS c 0 26
      ∗ recvRes m K rsS c 0 27
      ∗ recvRes m K rsS c 0 28
      ∗ recvRes m K rsS c 0 29
      ∗ levAts L lv
      ∗ owes (c : Thread nD τ) (owedAfter c 155) W
      ∗ (∀ r, (accSrcAt m c 0 26 ∗ closedAt m K c 0 26 rsS ∗ accSrcAt m c 0 27 ∗ closedAt m K c 0 27 rsS ∗ accSrcAt m c 0 28 ∗ closedAt m K c 0 28 rsS ∗ accSrcAt m c 0 29 ∗ closedAt m K c 0 29 rsS ∗ owes (c : Thread nD τ) (owedAfter c 155) (insert (SemLoc.dma (semAt (arr rsS) 0 29), ()) (insert (SemLoc.dma (semAt (arr rsS) 0 28), ()) (insert (SemLoc.dma (semAt (arr rsS) 0 27), ()) (insert (SemLoc.dma (semAt (arr rsS) 0 26), ()) (W)))))) -∗ Q r))
      ⊢ wp frame (wpE (defs₀ (F := F)) 𝒱₀ c none) Set.univ (k0_part99 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part99_spec m K c W Q

theorem part100_spec' (c : Dev nD) (W : Waits sig Unit) (Q : (PUnit) → sProp 𝕄) :
    iprop(recvRes m K rsS c 0 30
      ∗ recvRes m K rsS c 0 31
      ∗ recvRes m K rsS c 1 1
      ∗ recvRes m K rsS c 1 2
      ∗ levAts L lv
      ∗ owes (c : Thread nD τ) (owedAfter c 155) W
      ∗ (∀ r, (accSrcAt m c 0 30 ∗ closedAt m K c 0 30 rsS ∗ accSrcAt m c 0 31 ∗ closedAt m K c 0 31 rsS ∗ accSrcAt m c 1 1 ∗ closedAt m K c 1 1 rsS ∗ accSrcAt m c 1 2 ∗ closedAt m K c 1 2 rsS ∗ owes (c : Thread nD τ) (owedAfter c 155) (insert (SemLoc.dma (semAt (arr rsS) 1 2), ()) (insert (SemLoc.dma (semAt (arr rsS) 1 1), ()) (insert (SemLoc.dma (semAt (arr rsS) 0 31), ()) (insert (SemLoc.dma (semAt (arr rsS) 0 30), ()) (W)))))) -∗ Q r))
      ⊢ wp frame (wpE (defs₀ (F := F)) 𝒱₀ c none) Set.univ (k0_part100 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part100_spec m K c W Q

theorem part101_spec' (c : Dev nD) (W : Waits sig Unit) (Q : (PUnit) → sProp 𝕄) :
    iprop(recvRes m K rsS c 1 3
      ∗ recvRes m K rsS c 1 4
      ∗ recvRes m K rsS c 1 5
      ∗ recvRes m K rsS c 1 6
      ∗ levAts L lv
      ∗ owes (c : Thread nD τ) (owedAfter c 155) W
      ∗ (∀ r, (accSrcAt m c 1 3 ∗ closedAt m K c 1 3 rsS ∗ accSrcAt m c 1 4 ∗ closedAt m K c 1 4 rsS ∗ accSrcAt m c 1 5 ∗ closedAt m K c 1 5 rsS ∗ accSrcAt m c 1 6 ∗ closedAt m K c 1 6 rsS ∗ owes (c : Thread nD τ) (owedAfter c 155) (insert (SemLoc.dma (semAt (arr rsS) 1 6), ()) (insert (SemLoc.dma (semAt (arr rsS) 1 5), ()) (insert (SemLoc.dma (semAt (arr rsS) 1 4), ()) (insert (SemLoc.dma (semAt (arr rsS) 1 3), ()) (W)))))) -∗ Q r))
      ⊢ wp frame (wpE (defs₀ (F := F)) 𝒱₀ c none) Set.univ (k0_part101 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part101_spec m K c W Q

theorem part102_spec' (c : Dev nD) (W : Waits sig Unit) (Q : (PUnit) → sProp 𝕄) :
    iprop(recvRes m K rsS c 1 7
      ∗ recvRes m K rsS c 1 8
      ∗ recvRes m K rsS c 1 9
      ∗ levAts L lv
      ∗ owes (c : Thread nD τ) (owedAfter c 155) W
      ∗ (∀ r, (accSrcAt m c 1 7 ∗ closedAt m K c 1 7 rsS ∗ accSrcAt m c 1 8 ∗ closedAt m K c 1 8 rsS ∗ accSrcAt m c 1 9 ∗ closedAt m K c 1 9 rsS ∗ owes (c : Thread nD τ) (owedAfter c 155) (insert (SemLoc.dma (semAt (arr rsS) 1 9), ()) (insert (SemLoc.dma (semAt (arr rsS) 1 8), ()) (insert (SemLoc.dma (semAt (arr rsS) 1 7), ()) (W))))) -∗ Q r))
      ⊢ wp frame (wpE (defs₀ (F := F)) 𝒱₀ c none) Set.univ (k0_part102 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part102_spec m K c W Q

theorem part103_spec' (c : Dev nD) (W : Waits sig Unit) (Q : (PUnit) → sProp 𝕄) :
    iprop(recvRes m K rsS c 1 10
      ∗ recvRes m K rsS c 1 11
      ∗ recvRes m K rsS c 1 12
      ∗ recvRes m K rsS c 1 13
      ∗ levAts L lv
      ∗ owes (c : Thread nD τ) (owedAfter c 155) W
      ∗ (∀ r, (accSrcAt m c 1 10 ∗ closedAt m K c 1 10 rsS ∗ accSrcAt m c 1 11 ∗ closedAt m K c 1 11 rsS ∗ accSrcAt m c 1 12 ∗ closedAt m K c 1 12 rsS ∗ accSrcAt m c 1 13 ∗ closedAt m K c 1 13 rsS ∗ owes (c : Thread nD τ) (owedAfter c 155) (insert (SemLoc.dma (semAt (arr rsS) 1 13), ()) (insert (SemLoc.dma (semAt (arr rsS) 1 12), ()) (insert (SemLoc.dma (semAt (arr rsS) 1 11), ()) (insert (SemLoc.dma (semAt (arr rsS) 1 10), ()) (W)))))) -∗ Q r))
      ⊢ wp frame (wpE (defs₀ (F := F)) 𝒱₀ c none) Set.univ (k0_part103 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part103_spec m K c W Q

theorem part104_spec' (c : Dev nD) (W : Waits sig Unit) (Q : (PUnit) → sProp 𝕄) :
    iprop(recvRes m K rsS c 1 14
      ∗ recvRes m K rsS c 1 15
      ∗ recvRes m K rsS c 1 16
      ∗ recvRes m K rsS c 1 17
      ∗ levAts L lv
      ∗ owes (c : Thread nD τ) (owedAfter c 155) W
      ∗ (∀ r, (accSrcAt m c 1 14 ∗ closedAt m K c 1 14 rsS ∗ accSrcAt m c 1 15 ∗ closedAt m K c 1 15 rsS ∗ accSrcAt m c 1 16 ∗ closedAt m K c 1 16 rsS ∗ accSrcAt m c 1 17 ∗ closedAt m K c 1 17 rsS ∗ owes (c : Thread nD τ) (owedAfter c 155) (insert (SemLoc.dma (semAt (arr rsS) 1 17), ()) (insert (SemLoc.dma (semAt (arr rsS) 1 16), ()) (insert (SemLoc.dma (semAt (arr rsS) 1 15), ()) (insert (SemLoc.dma (semAt (arr rsS) 1 14), ()) (W)))))) -∗ Q r))
      ⊢ wp frame (wpE (defs₀ (F := F)) 𝒱₀ c none) Set.univ (k0_part104 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part104_spec m K c W Q

theorem part105_spec' (c : Dev nD) (W : Waits sig Unit) (Q : (PUnit) → sProp 𝕄) :
    iprop(recvRes m K rsS c 1 18
      ∗ recvRes m K rsS c 1 19
      ∗ recvRes m K rsS c 1 20
      ∗ recvRes m K rsS c 1 21
      ∗ levAts L lv
      ∗ owes (c : Thread nD τ) (owedAfter c 155) W
      ∗ (∀ r, (accSrcAt m c 1 18 ∗ closedAt m K c 1 18 rsS ∗ accSrcAt m c 1 19 ∗ closedAt m K c 1 19 rsS ∗ accSrcAt m c 1 20 ∗ closedAt m K c 1 20 rsS ∗ accSrcAt m c 1 21 ∗ closedAt m K c 1 21 rsS ∗ owes (c : Thread nD τ) (owedAfter c 155) (insert (SemLoc.dma (semAt (arr rsS) 1 21), ()) (insert (SemLoc.dma (semAt (arr rsS) 1 20), ()) (insert (SemLoc.dma (semAt (arr rsS) 1 19), ()) (insert (SemLoc.dma (semAt (arr rsS) 1 18), ()) (W)))))) -∗ Q r))
      ⊢ wp frame (wpE (defs₀ (F := F)) 𝒱₀ c none) Set.univ (k0_part105 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part105_spec m K c W Q

theorem part106_spec' (c : Dev nD) (W : Waits sig Unit) (Q : (PUnit) → sProp 𝕄) :
    iprop(recvRes m K rsS c 1 22
      ∗ recvRes m K rsS c 1 23
      ∗ recvRes m K rsS c 1 24
      ∗ levAts L lv
      ∗ owes (c : Thread nD τ) (owedAfter c 155) W
      ∗ (∀ r, (accSrcAt m c 1 22 ∗ closedAt m K c 1 22 rsS ∗ accSrcAt m c 1 23 ∗ closedAt m K c 1 23 rsS ∗ accSrcAt m c 1 24 ∗ closedAt m K c 1 24 rsS ∗ owes (c : Thread nD τ) (owedAfter c 155) (insert (SemLoc.dma (semAt (arr rsS) 1 24), ()) (insert (SemLoc.dma (semAt (arr rsS) 1 23), ()) (insert (SemLoc.dma (semAt (arr rsS) 1 22), ()) (W))))) -∗ Q r))
      ⊢ wp frame (wpE (defs₀ (F := F)) 𝒱₀ c none) Set.univ (k0_part106 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part106_spec m K c W Q

theorem part107_spec' (c : Dev nD) (W : Waits sig Unit) (Q : (PUnit) → sProp 𝕄) :
    iprop(recvRes m K rsS c 1 25
      ∗ recvRes m K rsS c 1 26
      ∗ recvRes m K rsS c 1 27
      ∗ recvRes m K rsS c 1 28
      ∗ levAts L lv
      ∗ owes (c : Thread nD τ) (owedAfter c 155) W
      ∗ (∀ r, (accSrcAt m c 1 25 ∗ closedAt m K c 1 25 rsS ∗ accSrcAt m c 1 26 ∗ closedAt m K c 1 26 rsS ∗ accSrcAt m c 1 27 ∗ closedAt m K c 1 27 rsS ∗ accSrcAt m c 1 28 ∗ closedAt m K c 1 28 rsS ∗ owes (c : Thread nD τ) (owedAfter c 155) (insert (SemLoc.dma (semAt (arr rsS) 1 28), ()) (insert (SemLoc.dma (semAt (arr rsS) 1 27), ()) (insert (SemLoc.dma (semAt (arr rsS) 1 26), ()) (insert (SemLoc.dma (semAt (arr rsS) 1 25), ()) (W)))))) -∗ Q r))
      ⊢ wp frame (wpE (defs₀ (F := F)) 𝒱₀ c none) Set.univ (k0_part107 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part107_spec m K c W Q

theorem part108_spec' (c : Dev nD) (v2 : BitVec 32) (W : Waits sig Unit) (Q : (PUnit) → sProp 𝕄) :
    iprop(recvRes m K rsS c 1 29
      ∗ recvRes m K rsS c 1 30
      ∗ recvRes m K rsS c 1 31
      ∗ levAts L lv
      ∗ owes (c : Thread nD τ) (owedAfter c 155) W
      ∗ (∀ r, (accSrcAt m c 1 29 ∗ closedAt m K c 1 29 rsS ∗ accSrcAt m c 1 30 ∗ closedAt m K c 1 30 rsS ∗ accSrcAt m c 1 31 ∗ closedAt m K c 1 31 rsS ∗ owes (c : Thread nD τ) (owedAfter c 155) (insert (SemLoc.dma (semAt (arr rsS) 1 31), ()) (insert (SemLoc.dma (semAt (arr rsS) 1 30), ()) (insert (SemLoc.dma (semAt (arr rsS) 1 29), ()) (W))))) -∗ Q r))
      ⊢ wp frame (wpE (defs₀ (F := F)) 𝒱₀ c none) Set.univ (k0_part108 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part108_spec m K c v2 W Q

theorem part109_spec' (c : Dev nD) (v2 : BitVec 32) (W : Waits sig Unit) (Q : (Σ' (v2718 : BitVec 32), BitVec 32) → sProp 𝕄) :
    iprop(recvRes m K agR c 0 1
      ∗ recvRes m K agR c 0 2
      ∗ recvRes m K agR c 0 3
      ∗ levAts L lv
      ∗ owes (c : Thread nD τ) (owedAfter c 155) W
      ∗ (∀ r, (gotAgR m c 0 1 ∗ closedAt m K c 0 1 agR ∗ gotAgR m c 0 2 ∗ closedAt m K c 0 2 agR ∗ gotAgR m c 0 3 ∗ closedAt m K c 0 3 agR ∗ owes (c : Thread nD τ) (owedAfter c 155) (insert (SemLoc.dma (semAt (arr agR) 0 3), ()) (insert (SemLoc.dma (semAt (arr agR) 0 2), ()) (insert (SemLoc.dma (semAt (arr agR) 0 1), ()) (W))))) -∗ Q r))
      ⊢ wp frame (wpE (defs₀ (F := F)) 𝒱₀ c none) Set.univ (k0_part109 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part109_spec m K c v2 W Q

theorem part110_spec' (c : Dev nD) (v2 : BitVec 32) (v2718 : BitVec 32) (c32_i32_3491 : BitVec 32) (W : Waits sig Unit) (Q : (Σ' (v2741 : BitVec 32), BitVec 32) → sProp 𝕄) :
    iprop(recvRes m K agR c 0 4
      ∗ recvRes m K agR c 0 5
      ∗ levAts L lv
      ∗ owes (c : Thread nD τ) (owedAfter c 155) W
      ∗ (∀ r, (gotAgR m c 0 4 ∗ closedAt m K c 0 4 agR ∗ gotAgR m c 0 5 ∗ closedAt m K c 0 5 agR ∗ owes (c : Thread nD τ) (owedAfter c 155) (insert (SemLoc.dma (semAt (arr agR) 0 5), ()) (insert (SemLoc.dma (semAt (arr agR) 0 4), ()) (W)))) -∗ Q r))
      ⊢ wp frame (wpE (defs₀ (F := F)) 𝒱₀ c none) Set.univ (k0_part110 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2718 c32_i32_3491) Q :=
  part110_spec m K c v2 v2718 c32_i32_3491 W Q

theorem part111_spec' (c : Dev nD) (v2 : BitVec 32) (v2741 : BitVec 32) (c1_i32_3524 : BitVec 32) (W : Waits sig Unit) (Q : (PUnit) → sProp 𝕄) :
    iprop(recvRes m K agR c 0 6
      ∗ recvRes m K agR c 0 7
      ∗ recvRes m K agR c 0 8
      ∗ levAts L lv
      ∗ owes (c : Thread nD τ) (owedAfter c 155) W
      ∗ (∀ r, (gotAgR m c 0 6 ∗ closedAt m K c 0 6 agR ∗ gotAgR m c 0 7 ∗ closedAt m K c 0 7 agR ∗ gotAgR m c 0 8 ∗ closedAt m K c 0 8 agR ∗ owes (c : Thread nD τ) (owedAfter c 155) (insert (SemLoc.dma (semAt (arr agR) 0 8), ()) (insert (SemLoc.dma (semAt (arr agR) 0 7), ()) (insert (SemLoc.dma (semAt (arr agR) 0 6), ()) (W))))) -∗ Q r))
      ⊢ wp frame (wpE (defs₀ (F := F)) 𝒱₀ c none) Set.univ (k0_part111 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2741 c1_i32_3524) Q :=
  part111_spec m K c v2 v2741 c1_i32_3524 W Q

theorem part112_spec' (c : Dev nD) (v2 : BitVec 32) (W : Waits sig Unit) (Q : (BitVec 32) → sProp 𝕄) :
    iprop(recvRes m K agR c 0 9
      ∗ recvRes m K agR c 0 10
      ∗ levAts L lv
      ∗ owes (c : Thread nD τ) (owedAfter c 155) W
      ∗ (∀ r, (gotAgR m c 0 9 ∗ closedAt m K c 0 9 agR ∗ gotAgR m c 0 10 ∗ closedAt m K c 0 10 agR ∗ owes (c : Thread nD τ) (owedAfter c 155) (insert (SemLoc.dma (semAt (arr agR) 0 10), ()) (insert (SemLoc.dma (semAt (arr agR) 0 9), ()) (W)))) -∗ Q r))
      ⊢ wp frame (wpE (defs₀ (F := F)) 𝒱₀ c none) Set.univ (k0_part112 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part112_spec m K c v2 W Q

theorem part113_spec' (c : Dev nD) (v2 : BitVec 32) (v2796 : BitVec 32) (W : Waits sig Unit) (Q : (PUnit) → sProp 𝕄) :
    iprop(recvRes m K agR c 0 11
      ∗ recvRes m K agR c 0 12
      ∗ levAts L lv
      ∗ owes (c : Thread nD τ) (owedAfter c 155) W
      ∗ (∀ r, (gotAgR m c 0 11 ∗ closedAt m K c 0 11 agR ∗ gotAgR m c 0 12 ∗ closedAt m K c 0 12 agR ∗ owes (c : Thread nD τ) (owedAfter c 155) (insert (SemLoc.dma (semAt (arr agR) 0 12), ()) (insert (SemLoc.dma (semAt (arr agR) 0 11), ()) (W)))) -∗ Q r))
      ⊢ wp frame (wpE (defs₀ (F := F)) 𝒱₀ c none) Set.univ (k0_part113 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2796) Q :=
  part113_spec m K c v2 v2796 W Q

theorem part114_spec' (c : Dev nD) (v2 : BitVec 32) (W : Waits sig Unit) (Q : (Σ' (v2850 : BitVec 32), BitVec 32) → sProp 𝕄) :
    iprop(recvRes m K agR c 0 13
      ∗ recvRes m K agR c 0 14
      ∗ recvRes m K agR c 0 15
      ∗ levAts L lv
      ∗ owes (c : Thread nD τ) (owedAfter c 155) W
      ∗ (∀ r, (gotAgR m c 0 13 ∗ closedAt m K c 0 13 agR ∗ gotAgR m c 0 14 ∗ closedAt m K c 0 14 agR ∗ gotAgR m c 0 15 ∗ closedAt m K c 0 15 agR ∗ owes (c : Thread nD τ) (owedAfter c 155) (insert (SemLoc.dma (semAt (arr agR) 0 15), ()) (insert (SemLoc.dma (semAt (arr agR) 0 14), ()) (insert (SemLoc.dma (semAt (arr agR) 0 13), ()) (W))))) -∗ Q r))
      ⊢ wp frame (wpE (defs₀ (F := F)) 𝒱₀ c none) Set.univ (k0_part114 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part114_spec m K c v2 W Q

theorem part115_spec' (c : Dev nD) (v2 : BitVec 32) (v2850 : BitVec 32) (c32_i32_3647 : BitVec 32) (W : Waits sig Unit) (Q : (Σ' (v2873 : BitVec 32), BitVec 32) → sProp 𝕄) :
    iprop(recvRes m K agR c 0 16
      ∗ recvRes m K agR c 0 17
      ∗ levAts L lv
      ∗ owes (c : Thread nD τ) (owedAfter c 155) W
      ∗ (∀ r, (gotAgR m c 0 16 ∗ closedAt m K c 0 16 agR ∗ gotAgR m c 0 17 ∗ closedAt m K c 0 17 agR ∗ owes (c : Thread nD τ) (owedAfter c 155) (insert (SemLoc.dma (semAt (arr agR) 0 17), ()) (insert (SemLoc.dma (semAt (arr agR) 0 16), ()) (W)))) -∗ Q r))
      ⊢ wp frame (wpE (defs₀ (F := F)) 𝒱₀ c none) Set.univ (k0_part115 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2850 c32_i32_3647) Q :=
  part115_spec m K c v2 v2850 c32_i32_3647 W Q

theorem part116_spec' (c : Dev nD) (v2 : BitVec 32) (v2873 : BitVec 32) (c1_i32_3680 : BitVec 32) (W : Waits sig Unit) (Q : (PUnit) → sProp 𝕄) :
    iprop(recvRes m K agR c 0 18
      ∗ recvRes m K agR c 0 19
      ∗ recvRes m K agR c 0 20
      ∗ levAts L lv
      ∗ owes (c : Thread nD τ) (owedAfter c 155) W
      ∗ (∀ r, (gotAgR m c 0 18 ∗ closedAt m K c 0 18 agR ∗ gotAgR m c 0 19 ∗ closedAt m K c 0 19 agR ∗ gotAgR m c 0 20 ∗ closedAt m K c 0 20 agR ∗ owes (c : Thread nD τ) (owedAfter c 155) (insert (SemLoc.dma (semAt (arr agR) 0 20), ()) (insert (SemLoc.dma (semAt (arr agR) 0 19), ()) (insert (SemLoc.dma (semAt (arr agR) 0 18), ()) (W))))) -∗ Q r))
      ⊢ wp frame (wpE (defs₀ (F := F)) 𝒱₀ c none) Set.univ (k0_part116 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2873 c1_i32_3680) Q :=
  part116_spec m K c v2 v2873 c1_i32_3680 W Q

theorem part117_spec' (c : Dev nD) (v2 : BitVec 32) (W : Waits sig Unit) (Q : (BitVec 32) → sProp 𝕄) :
    iprop(recvRes m K agR c 0 21
      ∗ recvRes m K agR c 0 22
      ∗ levAts L lv
      ∗ owes (c : Thread nD τ) (owedAfter c 155) W
      ∗ (∀ r, (gotAgR m c 0 21 ∗ closedAt m K c 0 21 agR ∗ gotAgR m c 0 22 ∗ closedAt m K c 0 22 agR ∗ owes (c : Thread nD τ) (owedAfter c 155) (insert (SemLoc.dma (semAt (arr agR) 0 22), ()) (insert (SemLoc.dma (semAt (arr agR) 0 21), ()) (W)))) -∗ Q r))
      ⊢ wp frame (wpE (defs₀ (F := F)) 𝒱₀ c none) Set.univ (k0_part117 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part117_spec m K c v2 W Q

theorem part118_spec' (c : Dev nD) (v2 : BitVec 32) (v2928 : BitVec 32) (W : Waits sig Unit) (Q : (PUnit) → sProp 𝕄) :
    iprop(recvRes m K agR c 0 23
      ∗ recvRes m K agR c 0 24
      ∗ levAts L lv
      ∗ owes (c : Thread nD τ) (owedAfter c 155) W
      ∗ (∀ r, (gotAgR m c 0 23 ∗ closedAt m K c 0 23 agR ∗ gotAgR m c 0 24 ∗ closedAt m K c 0 24 agR ∗ owes (c : Thread nD τ) (owedAfter c 155) (insert (SemLoc.dma (semAt (arr agR) 0 24), ()) (insert (SemLoc.dma (semAt (arr agR) 0 23), ()) (W)))) -∗ Q r))
      ⊢ wp frame (wpE (defs₀ (F := F)) 𝒱₀ c none) Set.univ (k0_part118 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2928) Q :=
  part118_spec m K c v2 v2928 W Q

theorem part119_spec' (c : Dev nD) (v2 : BitVec 32) (W : Waits sig Unit) (Q : (Σ' (v2982 : BitVec 32), BitVec 32) → sProp 𝕄) :
    iprop(recvRes m K agR c 0 25
      ∗ recvRes m K agR c 0 26
      ∗ recvRes m K agR c 0 27
      ∗ levAts L lv
      ∗ owes (c : Thread nD τ) (owedAfter c 155) W
      ∗ (∀ r, (gotAgR m c 0 25 ∗ closedAt m K c 0 25 agR ∗ gotAgR m c 0 26 ∗ closedAt m K c 0 26 agR ∗ gotAgR m c 0 27 ∗ closedAt m K c 0 27 agR ∗ owes (c : Thread nD τ) (owedAfter c 155) (insert (SemLoc.dma (semAt (arr agR) 0 27), ()) (insert (SemLoc.dma (semAt (arr agR) 0 26), ()) (insert (SemLoc.dma (semAt (arr agR) 0 25), ()) (W))))) -∗ Q r))
      ⊢ wp frame (wpE (defs₀ (F := F)) 𝒱₀ c none) Set.univ (k0_part119 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part119_spec m K c v2 W Q

theorem part120_spec' (c : Dev nD) (v2 : BitVec 32) (v2982 : BitVec 32) (c32_i32_3803 : BitVec 32) (W : Waits sig Unit) (Q : (Σ' (v3005 : BitVec 32), BitVec 32) → sProp 𝕄) :
    iprop(recvRes m K agR c 0 28
      ∗ recvRes m K agR c 0 29
      ∗ levAts L lv
      ∗ owes (c : Thread nD τ) (owedAfter c 155) W
      ∗ (∀ r, (gotAgR m c 0 28 ∗ closedAt m K c 0 28 agR ∗ gotAgR m c 0 29 ∗ closedAt m K c 0 29 agR ∗ owes (c : Thread nD τ) (owedAfter c 155) (insert (SemLoc.dma (semAt (arr agR) 0 29), ()) (insert (SemLoc.dma (semAt (arr agR) 0 28), ()) (W)))) -∗ Q r))
      ⊢ wp frame (wpE (defs₀ (F := F)) 𝒱₀ c none) Set.univ (k0_part120 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v2982 c32_i32_3803) Q :=
  part120_spec m K c v2 v2982 c32_i32_3803 W Q

theorem part122_spec' (c : Dev nD) (v2 : BitVec 32) (v3033 : BitVec 32) (c0_i32_3867 : BitVec 32) (W : Waits sig Unit) (Q : (BitVec 32) → sProp 𝕄) :
    iprop(recvRes m K agR c 1 1
      ∗ recvRes m K agR c 1 2
      ∗ recvRes m K agR c 1 3
      ∗ levAts L lv
      ∗ owes (c : Thread nD τ) (owedAfter c 155) W
      ∗ (∀ r, (gotAgR m c 1 1 ∗ closedAt m K c 1 1 agR ∗ gotAgR m c 1 2 ∗ closedAt m K c 1 2 agR ∗ gotAgR m c 1 3 ∗ closedAt m K c 1 3 agR ∗ owes (c : Thread nD τ) (owedAfter c 155) (insert (SemLoc.dma (semAt (arr agR) 1 3), ()) (insert (SemLoc.dma (semAt (arr agR) 1 2), ()) (insert (SemLoc.dma (semAt (arr agR) 1 1), ()) (W))))) -∗ Q r))
      ⊢ wp frame (wpE (defs₀ (F := F)) 𝒱₀ c none) Set.univ (k0_part122 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3033 c0_i32_3867) Q :=
  part122_spec m K c v2 v3033 c0_i32_3867 W Q

theorem part123_spec' (c : Dev nD) (v2 : BitVec 32) (v3061 : BitVec 32) (W : Waits sig Unit) (Q : (BitVec 32) → sProp 𝕄) :
    iprop(recvRes m K agR c 1 4
      ∗ recvRes m K agR c 1 5
      ∗ levAts L lv
      ∗ owes (c : Thread nD τ) (owedAfter c 155) W
      ∗ (∀ r, (gotAgR m c 1 4 ∗ closedAt m K c 1 4 agR ∗ gotAgR m c 1 5 ∗ closedAt m K c 1 5 agR ∗ owes (c : Thread nD τ) (owedAfter c 155) (insert (SemLoc.dma (semAt (arr agR) 1 5), ()) (insert (SemLoc.dma (semAt (arr agR) 1 4), ()) (W)))) -∗ Q r))
      ⊢ wp frame (wpE (defs₀ (F := F)) 𝒱₀ c none) Set.univ (k0_part123 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3061) Q :=
  part123_spec m K c v2 v3061 W Q

theorem part124_spec' (c : Dev nD) (v2 : BitVec 32) (v3085 : BitVec 32) (W : Waits sig Unit) (Q : (PUnit) → sProp 𝕄) :
    iprop(recvRes m K agR c 1 6
      ∗ recvRes m K agR c 1 7
      ∗ levAts L lv
      ∗ owes (c : Thread nD τ) (owedAfter c 155) W
      ∗ (∀ r, (gotAgR m c 1 6 ∗ closedAt m K c 1 6 agR ∗ gotAgR m c 1 7 ∗ closedAt m K c 1 7 agR ∗ owes (c : Thread nD τ) (owedAfter c 155) (insert (SemLoc.dma (semAt (arr agR) 1 7), ()) (insert (SemLoc.dma (semAt (arr agR) 1 6), ()) (W)))) -∗ Q r))
      ⊢ wp frame (wpE (defs₀ (F := F)) 𝒱₀ c none) Set.univ (k0_part124 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3085) Q :=
  part124_spec m K c v2 v3085 W Q

theorem part125_spec' (c : Dev nD) (v2 : BitVec 32) (W : Waits sig Unit) (Q : (Σ' (v3140 : BitVec 32), BitVec 32) → sProp 𝕄) :
    iprop(recvRes m K agR c 1 8
      ∗ recvRes m K agR c 1 9
      ∗ recvRes m K agR c 1 10
      ∗ levAts L lv
      ∗ owes (c : Thread nD τ) (owedAfter c 155) W
      ∗ (∀ r, (gotAgR m c 1 8 ∗ closedAt m K c 1 8 agR ∗ gotAgR m c 1 9 ∗ closedAt m K c 1 9 agR ∗ gotAgR m c 1 10 ∗ closedAt m K c 1 10 agR ∗ owes (c : Thread nD τ) (owedAfter c 155) (insert (SemLoc.dma (semAt (arr agR) 1 10), ()) (insert (SemLoc.dma (semAt (arr agR) 1 9), ()) (insert (SemLoc.dma (semAt (arr agR) 1 8), ()) (W))))) -∗ Q r))
      ⊢ wp frame (wpE (defs₀ (F := F)) 𝒱₀ c none) Set.univ (k0_part125 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part125_spec m K c v2 W Q

theorem part126_spec' (c : Dev nD) (v2 : BitVec 32) (v3140 : BitVec 32) (c32_i32_3990 : BitVec 32) (W : Waits sig Unit) (Q : (Σ' (v3165 : BitVec 32), BitVec 32) → sProp 𝕄) :
    iprop(recvRes m K agR c 1 11
      ∗ recvRes m K agR c 1 12
      ∗ levAts L lv
      ∗ owes (c : Thread nD τ) (owedAfter c 155) W
      ∗ (∀ r, (gotAgR m c 1 11 ∗ closedAt m K c 1 11 agR ∗ gotAgR m c 1 12 ∗ closedAt m K c 1 12 agR ∗ owes (c : Thread nD τ) (owedAfter c 155) (insert (SemLoc.dma (semAt (arr agR) 1 12), ()) (insert (SemLoc.dma (semAt (arr agR) 1 11), ()) (W)))) -∗ Q r))
      ⊢ wp frame (wpE (defs₀ (F := F)) 𝒱₀ c none) Set.univ (k0_part126 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3140 c32_i32_3990) Q :=
  part126_spec m K c v2 v3140 c32_i32_3990 W Q

theorem part127_spec' (c : Dev nD) (v2 : BitVec 32) (v3165 : BitVec 32) (c0_i32_4023 : BitVec 32) (W : Waits sig Unit) (Q : (BitVec 32) → sProp 𝕄) :
    iprop(recvRes m K agR c 1 13
      ∗ recvRes m K agR c 1 14
      ∗ recvRes m K agR c 1 15
      ∗ levAts L lv
      ∗ owes (c : Thread nD τ) (owedAfter c 155) W
      ∗ (∀ r, (gotAgR m c 1 13 ∗ closedAt m K c 1 13 agR ∗ gotAgR m c 1 14 ∗ closedAt m K c 1 14 agR ∗ gotAgR m c 1 15 ∗ closedAt m K c 1 15 agR ∗ owes (c : Thread nD τ) (owedAfter c 155) (insert (SemLoc.dma (semAt (arr agR) 1 15), ()) (insert (SemLoc.dma (semAt (arr agR) 1 14), ()) (insert (SemLoc.dma (semAt (arr agR) 1 13), ()) (W))))) -∗ Q r))
      ⊢ wp frame (wpE (defs₀ (F := F)) 𝒱₀ c none) Set.univ (k0_part127 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3165 c0_i32_4023) Q :=
  part127_spec m K c v2 v3165 c0_i32_4023 W Q

theorem part128_spec' (c : Dev nD) (v2 : BitVec 32) (v3193 : BitVec 32) (W : Waits sig Unit) (Q : (BitVec 32) → sProp 𝕄) :
    iprop(recvRes m K agR c 1 16
      ∗ recvRes m K agR c 1 17
      ∗ levAts L lv
      ∗ owes (c : Thread nD τ) (owedAfter c 155) W
      ∗ (∀ r, (gotAgR m c 1 16 ∗ closedAt m K c 1 16 agR ∗ gotAgR m c 1 17 ∗ closedAt m K c 1 17 agR ∗ owes (c : Thread nD τ) (owedAfter c 155) (insert (SemLoc.dma (semAt (arr agR) 1 17), ()) (insert (SemLoc.dma (semAt (arr agR) 1 16), ()) (W)))) -∗ Q r))
      ⊢ wp frame (wpE (defs₀ (F := F)) 𝒱₀ c none) Set.univ (k0_part128 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3193) Q :=
  part128_spec m K c v2 v3193 W Q

theorem part129_spec' (c : Dev nD) (v2 : BitVec 32) (v3217 : BitVec 32) (W : Waits sig Unit) (Q : (PUnit) → sProp 𝕄) :
    iprop(recvRes m K agR c 1 18
      ∗ recvRes m K agR c 1 19
      ∗ levAts L lv
      ∗ owes (c : Thread nD τ) (owedAfter c 155) W
      ∗ (∀ r, (gotAgR m c 1 18 ∗ closedAt m K c 1 18 agR ∗ gotAgR m c 1 19 ∗ closedAt m K c 1 19 agR ∗ owes (c : Thread nD τ) (owedAfter c 155) (insert (SemLoc.dma (semAt (arr agR) 1 19), ()) (insert (SemLoc.dma (semAt (arr agR) 1 18), ()) (W)))) -∗ Q r))
      ⊢ wp frame (wpE (defs₀ (F := F)) 𝒱₀ c none) Set.univ (k0_part129 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3217) Q :=
  part129_spec m K c v2 v3217 W Q

theorem part130_spec' (c : Dev nD) (v2 : BitVec 32) (W : Waits sig Unit) (Q : (Σ' (v3272 : BitVec 32), BitVec 32) → sProp 𝕄) :
    iprop(recvRes m K agR c 1 20
      ∗ recvRes m K agR c 1 21
      ∗ recvRes m K agR c 1 22
      ∗ levAts L lv
      ∗ owes (c : Thread nD τ) (owedAfter c 155) W
      ∗ (∀ r, (gotAgR m c 1 20 ∗ closedAt m K c 1 20 agR ∗ gotAgR m c 1 21 ∗ closedAt m K c 1 21 agR ∗ gotAgR m c 1 22 ∗ closedAt m K c 1 22 agR ∗ owes (c : Thread nD τ) (owedAfter c 155) (insert (SemLoc.dma (semAt (arr agR) 1 22), ()) (insert (SemLoc.dma (semAt (arr agR) 1 21), ()) (insert (SemLoc.dma (semAt (arr agR) 1 20), ()) (W))))) -∗ Q r))
      ⊢ wp frame (wpE (defs₀ (F := F)) 𝒱₀ c none) Set.univ (k0_part130 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part130_spec m K c v2 W Q

theorem part131_spec' (c : Dev nD) (v2 : BitVec 32) (v3272 : BitVec 32) (c32_i32_4146 : BitVec 32) (W : Waits sig Unit) (Q : (Σ' (v3297 : BitVec 32), BitVec 32) → sProp 𝕄) :
    iprop(recvRes m K agR c 1 23
      ∗ recvRes m K agR c 1 24
      ∗ levAts L lv
      ∗ owes (c : Thread nD τ) (owedAfter c 155) W
      ∗ (∀ r, (gotAgR m c 1 23 ∗ closedAt m K c 1 23 agR ∗ gotAgR m c 1 24 ∗ closedAt m K c 1 24 agR ∗ owes (c : Thread nD τ) (owedAfter c 155) (insert (SemLoc.dma (semAt (arr agR) 1 24), ()) (insert (SemLoc.dma (semAt (arr agR) 1 23), ()) (W)))) -∗ Q r))
      ⊢ wp frame (wpE (defs₀ (F := F)) 𝒱₀ c none) Set.univ (k0_part131 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3272 c32_i32_4146) Q :=
  part131_spec m K c v2 v3272 c32_i32_4146 W Q

theorem part132_spec' (c : Dev nD) (v2 : BitVec 32) (v3297 : BitVec 32) (c0_i32_4179 : BitVec 32) (W : Waits sig Unit) (Q : (BitVec 32) → sProp 𝕄) :
    iprop(recvRes m K agR c 1 25
      ∗ recvRes m K agR c 1 26
      ∗ recvRes m K agR c 1 27
      ∗ levAts L lv
      ∗ owes (c : Thread nD τ) (owedAfter c 155) W
      ∗ (∀ r, (gotAgR m c 1 25 ∗ closedAt m K c 1 25 agR ∗ gotAgR m c 1 26 ∗ closedAt m K c 1 26 agR ∗ gotAgR m c 1 27 ∗ closedAt m K c 1 27 agR ∗ owes (c : Thread nD τ) (owedAfter c 155) (insert (SemLoc.dma (semAt (arr agR) 1 27), ()) (insert (SemLoc.dma (semAt (arr agR) 1 26), ()) (insert (SemLoc.dma (semAt (arr agR) 1 25), ()) (W))))) -∗ Q r))
      ⊢ wp frame (wpE (defs₀ (F := F)) 𝒱₀ c none) Set.univ (k0_part132 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3297 c0_i32_4179) Q :=
  part132_spec m K c v2 v3297 c0_i32_4179 W Q

theorem part133_spec' (c : Dev nD) (v2 : BitVec 32) (v3325 : BitVec 32) (W : Waits sig Unit) (Q : (BitVec 32) → sProp 𝕄) :
    iprop(recvRes m K agR c 1 28
      ∗ recvRes m K agR c 1 29
      ∗ levAts L lv
      ∗ owes (c : Thread nD τ) (owedAfter c 155) W
      ∗ (∀ r, (gotAgR m c 1 28 ∗ closedAt m K c 1 28 agR ∗ gotAgR m c 1 29 ∗ closedAt m K c 1 29 agR ∗ owes (c : Thread nD τ) (owedAfter c 155) (insert (SemLoc.dma (semAt (arr agR) 1 29), ()) (insert (SemLoc.dma (semAt (arr agR) 1 28), ()) (W)))) -∗ Q r))
      ⊢ wp frame (wpE (defs₀ (F := F)) 𝒱₀ c none) Set.univ (k0_part133 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3325) Q :=
  part133_spec m K c v2 v3325 W Q

theorem part135_spec' (c : Dev nD) (W : Waits sig Unit) (Q : (PUnit) → sProp 𝕄) :
    iprop(recvRes m K agS c 0 2
      ∗ recvRes m K agS c 0 3
      ∗ recvRes m K agS c 0 4
      ∗ recvRes m K agS c 0 5
      ∗ recvRes m K agS c 0 6
      ∗ levAts L lv
      ∗ owes (c : Thread nD τ) (owedAfter c 155) W
      ∗ (∀ r, (outShareAt m c 0 2 ∗ closedAt m K c 0 2 agS ∗ outShareAt m c 0 3 ∗ closedAt m K c 0 3 agS ∗ outShareAt m c 0 4 ∗ closedAt m K c 0 4 agS ∗ outShareAt m c 0 5 ∗ closedAt m K c 0 5 agS ∗ outShareAt m c 0 6 ∗ closedAt m K c 0 6 agS ∗ owes (c : Thread nD τ) (owedAfter c 155) (insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) (W))))))) -∗ Q r))
      ⊢ wp frame (wpE (defs₀ (F := F)) 𝒱₀ c none) Set.univ (k0_part135 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part135_spec m K c W Q

theorem part136_spec' (c : Dev nD) (W : Waits sig Unit) (Q : (PUnit) → sProp 𝕄) :
    iprop(recvRes m K agS c 0 7
      ∗ recvRes m K agS c 0 8
      ∗ recvRes m K agS c 0 9
      ∗ recvRes m K agS c 0 10
      ∗ recvRes m K agS c 0 11
      ∗ levAts L lv
      ∗ owes (c : Thread nD τ) (owedAfter c 155) W
      ∗ (∀ r, (outShareAt m c 0 7 ∗ closedAt m K c 0 7 agS ∗ outShareAt m c 0 8 ∗ closedAt m K c 0 8 agS ∗ outShareAt m c 0 9 ∗ closedAt m K c 0 9 agS ∗ outShareAt m c 0 10 ∗ closedAt m K c 0 10 agS ∗ outShareAt m c 0 11 ∗ closedAt m K c 0 11 agS ∗ owes (c : Thread nD τ) (owedAfter c 155) (insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) (W))))))) -∗ Q r))
      ⊢ wp frame (wpE (defs₀ (F := F)) 𝒱₀ c none) Set.univ (k0_part136 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part136_spec m K c W Q

theorem part137_spec' (c : Dev nD) (W : Waits sig Unit) (Q : (PUnit) → sProp 𝕄) :
    iprop(recvRes m K agS c 0 12
      ∗ recvRes m K agS c 0 13
      ∗ recvRes m K agS c 0 14
      ∗ recvRes m K agS c 0 15
      ∗ recvRes m K agS c 0 16
      ∗ levAts L lv
      ∗ owes (c : Thread nD τ) (owedAfter c 155) W
      ∗ (∀ r, (outShareAt m c 0 12 ∗ closedAt m K c 0 12 agS ∗ outShareAt m c 0 13 ∗ closedAt m K c 0 13 agS ∗ outShareAt m c 0 14 ∗ closedAt m K c 0 14 agS ∗ outShareAt m c 0 15 ∗ closedAt m K c 0 15 agS ∗ outShareAt m c 0 16 ∗ closedAt m K c 0 16 agS ∗ owes (c : Thread nD τ) (owedAfter c 155) (insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) (W))))))) -∗ Q r))
      ⊢ wp frame (wpE (defs₀ (F := F)) 𝒱₀ c none) Set.univ (k0_part137 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part137_spec m K c W Q

theorem part138_spec' (c : Dev nD) (W : Waits sig Unit) (Q : (PUnit) → sProp 𝕄) :
    iprop(recvRes m K agS c 0 17
      ∗ recvRes m K agS c 0 18
      ∗ recvRes m K agS c 0 19
      ∗ recvRes m K agS c 0 20
      ∗ recvRes m K agS c 0 21
      ∗ levAts L lv
      ∗ owes (c : Thread nD τ) (owedAfter c 155) W
      ∗ (∀ r, (outShareAt m c 0 17 ∗ closedAt m K c 0 17 agS ∗ outShareAt m c 0 18 ∗ closedAt m K c 0 18 agS ∗ outShareAt m c 0 19 ∗ closedAt m K c 0 19 agS ∗ outShareAt m c 0 20 ∗ closedAt m K c 0 20 agS ∗ outShareAt m c 0 21 ∗ closedAt m K c 0 21 agS ∗ owes (c : Thread nD τ) (owedAfter c 155) (insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) (W))))))) -∗ Q r))
      ⊢ wp frame (wpE (defs₀ (F := F)) 𝒱₀ c none) Set.univ (k0_part138 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part138_spec m K c W Q

theorem part139_spec' (c : Dev nD) (W : Waits sig Unit) (Q : (PUnit) → sProp 𝕄) :
    iprop(recvRes m K agS c 0 22
      ∗ recvRes m K agS c 0 23
      ∗ recvRes m K agS c 0 24
      ∗ recvRes m K agS c 0 25
      ∗ recvRes m K agS c 0 26
      ∗ levAts L lv
      ∗ owes (c : Thread nD τ) (owedAfter c 155) W
      ∗ (∀ r, (outShareAt m c 0 22 ∗ closedAt m K c 0 22 agS ∗ outShareAt m c 0 23 ∗ closedAt m K c 0 23 agS ∗ outShareAt m c 0 24 ∗ closedAt m K c 0 24 agS ∗ outShareAt m c 0 25 ∗ closedAt m K c 0 25 agS ∗ outShareAt m c 0 26 ∗ closedAt m K c 0 26 agS ∗ owes (c : Thread nD τ) (owedAfter c 155) (insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) (W))))))) -∗ Q r))
      ⊢ wp frame (wpE (defs₀ (F := F)) 𝒱₀ c none) Set.univ (k0_part139 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part139_spec m K c W Q

theorem part140_spec' (c : Dev nD) (W : Waits sig Unit) (Q : (PUnit) → sProp 𝕄) :
    iprop(recvRes m K agS c 0 27
      ∗ recvRes m K agS c 0 28
      ∗ recvRes m K agS c 0 29
      ∗ recvRes m K agS c 0 30
      ∗ recvRes m K agS c 0 31
      ∗ levAts L lv
      ∗ owes (c : Thread nD τ) (owedAfter c 155) W
      ∗ (∀ r, (outShareAt m c 0 27 ∗ closedAt m K c 0 27 agS ∗ outShareAt m c 0 28 ∗ closedAt m K c 0 28 agS ∗ outShareAt m c 0 29 ∗ closedAt m K c 0 29 agS ∗ outShareAt m c 0 30 ∗ closedAt m K c 0 30 agS ∗ outShareAt m c 0 31 ∗ closedAt m K c 0 31 agS ∗ owes (c : Thread nD τ) (owedAfter c 155) (insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) (W))))))) -∗ Q r))
      ⊢ wp frame (wpE (defs₀ (F := F)) 𝒱₀ c none) Set.univ (k0_part140 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part140_spec m K c W Q

theorem part141_spec' (c : Dev nD) (W : Waits sig Unit) (Q : (PUnit) → sProp 𝕄) :
    iprop(recvRes m K agS c 1 1
      ∗ recvRes m K agS c 1 2
      ∗ recvRes m K agS c 1 3
      ∗ recvRes m K agS c 1 4
      ∗ recvRes m K agS c 1 5
      ∗ levAts L lv
      ∗ owes (c : Thread nD τ) (owedAfter c 155) W
      ∗ (∀ r, (outShareAt m c 1 1 ∗ closedAt m K c 1 1 agS ∗ outShareAt m c 1 2 ∗ closedAt m K c 1 2 agS ∗ outShareAt m c 1 3 ∗ closedAt m K c 1 3 agS ∗ outShareAt m c 1 4 ∗ closedAt m K c 1 4 agS ∗ outShareAt m c 1 5 ∗ closedAt m K c 1 5 agS ∗ owes (c : Thread nD τ) (owedAfter c 155) (insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) (W))))))) -∗ Q r))
      ⊢ wp frame (wpE (defs₀ (F := F)) 𝒱₀ c none) Set.univ (k0_part141 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part141_spec m K c W Q

theorem part142_spec' (c : Dev nD) (W : Waits sig Unit) (Q : (PUnit) → sProp 𝕄) :
    iprop(recvRes m K agS c 1 6
      ∗ recvRes m K agS c 1 7
      ∗ recvRes m K agS c 1 8
      ∗ recvRes m K agS c 1 9
      ∗ recvRes m K agS c 1 10
      ∗ levAts L lv
      ∗ owes (c : Thread nD τ) (owedAfter c 155) W
      ∗ (∀ r, (outShareAt m c 1 6 ∗ closedAt m K c 1 6 agS ∗ outShareAt m c 1 7 ∗ closedAt m K c 1 7 agS ∗ outShareAt m c 1 8 ∗ closedAt m K c 1 8 agS ∗ outShareAt m c 1 9 ∗ closedAt m K c 1 9 agS ∗ outShareAt m c 1 10 ∗ closedAt m K c 1 10 agS ∗ owes (c : Thread nD τ) (owedAfter c 155) (insert (SemLoc.dma (semAt (arr agS) 1 10), ()) (insert (SemLoc.dma (semAt (arr agS) 1 9), ()) (insert (SemLoc.dma (semAt (arr agS) 1 8), ()) (insert (SemLoc.dma (semAt (arr agS) 1 7), ()) (insert (SemLoc.dma (semAt (arr agS) 1 6), ()) (W))))))) -∗ Q r))
      ⊢ wp frame (wpE (defs₀ (F := F)) 𝒱₀ c none) Set.univ (k0_part142 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part142_spec m K c W Q

theorem part143_spec' (c : Dev nD) (W : Waits sig Unit) (Q : (PUnit) → sProp 𝕄) :
    iprop(recvRes m K agS c 1 11
      ∗ recvRes m K agS c 1 12
      ∗ recvRes m K agS c 1 13
      ∗ recvRes m K agS c 1 14
      ∗ recvRes m K agS c 1 15
      ∗ levAts L lv
      ∗ owes (c : Thread nD τ) (owedAfter c 155) W
      ∗ (∀ r, (outShareAt m c 1 11 ∗ closedAt m K c 1 11 agS ∗ outShareAt m c 1 12 ∗ closedAt m K c 1 12 agS ∗ outShareAt m c 1 13 ∗ closedAt m K c 1 13 agS ∗ outShareAt m c 1 14 ∗ closedAt m K c 1 14 agS ∗ outShareAt m c 1 15 ∗ closedAt m K c 1 15 agS ∗ owes (c : Thread nD τ) (owedAfter c 155) (insert (SemLoc.dma (semAt (arr agS) 1 15), ()) (insert (SemLoc.dma (semAt (arr agS) 1 14), ()) (insert (SemLoc.dma (semAt (arr agS) 1 13), ()) (insert (SemLoc.dma (semAt (arr agS) 1 12), ()) (insert (SemLoc.dma (semAt (arr agS) 1 11), ()) (W))))))) -∗ Q r))
      ⊢ wp frame (wpE (defs₀ (F := F)) 𝒱₀ c none) Set.univ (k0_part143 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part143_spec m K c W Q

theorem part144_spec' (c : Dev nD) (W : Waits sig Unit) (Q : (PUnit) → sProp 𝕄) :
    iprop(recvRes m K agS c 1 16
      ∗ recvRes m K agS c 1 17
      ∗ recvRes m K agS c 1 18
      ∗ recvRes m K agS c 1 19
      ∗ recvRes m K agS c 1 20
      ∗ levAts L lv
      ∗ owes (c : Thread nD τ) (owedAfter c 155) W
      ∗ (∀ r, (outShareAt m c 1 16 ∗ closedAt m K c 1 16 agS ∗ outShareAt m c 1 17 ∗ closedAt m K c 1 17 agS ∗ outShareAt m c 1 18 ∗ closedAt m K c 1 18 agS ∗ outShareAt m c 1 19 ∗ closedAt m K c 1 19 agS ∗ outShareAt m c 1 20 ∗ closedAt m K c 1 20 agS ∗ owes (c : Thread nD τ) (owedAfter c 155) (insert (SemLoc.dma (semAt (arr agS) 1 20), ()) (insert (SemLoc.dma (semAt (arr agS) 1 19), ()) (insert (SemLoc.dma (semAt (arr agS) 1 18), ()) (insert (SemLoc.dma (semAt (arr agS) 1 17), ()) (insert (SemLoc.dma (semAt (arr agS) 1 16), ()) (W))))))) -∗ Q r))
      ⊢ wp frame (wpE (defs₀ (F := F)) 𝒱₀ c none) Set.univ (k0_part144 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part144_spec m K c W Q

theorem part145_spec' (c : Dev nD) (W : Waits sig Unit) (Q : (PUnit) → sProp 𝕄) :
    iprop(recvRes m K agS c 1 21
      ∗ recvRes m K agS c 1 22
      ∗ recvRes m K agS c 1 23
      ∗ recvRes m K agS c 1 24
      ∗ recvRes m K agS c 1 25
      ∗ levAts L lv
      ∗ owes (c : Thread nD τ) (owedAfter c 155) W
      ∗ (∀ r, (outShareAt m c 1 21 ∗ closedAt m K c 1 21 agS ∗ outShareAt m c 1 22 ∗ closedAt m K c 1 22 agS ∗ outShareAt m c 1 23 ∗ closedAt m K c 1 23 agS ∗ outShareAt m c 1 24 ∗ closedAt m K c 1 24 agS ∗ outShareAt m c 1 25 ∗ closedAt m K c 1 25 agS ∗ owes (c : Thread nD τ) (owedAfter c 155) (insert (SemLoc.dma (semAt (arr agS) 1 25), ()) (insert (SemLoc.dma (semAt (arr agS) 1 24), ()) (insert (SemLoc.dma (semAt (arr agS) 1 23), ()) (insert (SemLoc.dma (semAt (arr agS) 1 22), ()) (insert (SemLoc.dma (semAt (arr agS) 1 21), ()) (W))))))) -∗ Q r))
      ⊢ wp frame (wpE (defs₀ (F := F)) 𝒱₀ c none) Set.univ (k0_part145 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part145_spec m K c W Q

theorem part146_spec' (c : Dev nD) (W : Waits sig Unit) (Q : (PUnit) → sProp 𝕄) :
    iprop(recvRes m K agS c 1 26
      ∗ recvRes m K agS c 1 27
      ∗ recvRes m K agS c 1 28
      ∗ recvRes m K agS c 1 29
      ∗ recvRes m K agS c 1 30
      ∗ levAts L lv
      ∗ owes (c : Thread nD τ) (owedAfter c 155) W
      ∗ (∀ r, (outShareAt m c 1 26 ∗ closedAt m K c 1 26 agS ∗ outShareAt m c 1 27 ∗ closedAt m K c 1 27 agS ∗ outShareAt m c 1 28 ∗ closedAt m K c 1 28 agS ∗ outShareAt m c 1 29 ∗ closedAt m K c 1 29 agS ∗ outShareAt m c 1 30 ∗ closedAt m K c 1 30 agS ∗ owes (c : Thread nD τ) (owedAfter c 155) (insert (SemLoc.dma (semAt (arr agS) 1 30), ()) (insert (SemLoc.dma (semAt (arr agS) 1 29), ()) (insert (SemLoc.dma (semAt (arr agS) 1 28), ()) (insert (SemLoc.dma (semAt (arr agS) 1 27), ()) (insert (SemLoc.dma (semAt (arr agS) 1 26), ()) (W))))))) -∗ Q r))
      ⊢ wp frame (wpE (defs₀ (F := F)) 𝒱₀ c none) Set.univ (k0_part146 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c) Q :=
  part146_spec m K c W Q

end Cert.Kernel.AllReduce

end
-- ==== Proof.Word.RegionSplit.lean ====
/-
  The three scratch buffers of a device, cut into the pieces the protocol hands around: the receive buffer into its
  64 slots (half, slot), the partial product and the gather buffer each into their 64 chunks (half, row chunk).  The
  pieces of one buffer are pairwise disjoint rectangles that cover it, so the buffer held whole is its pieces held
  side by side, and pieces held at different contents join into the buffer held whole at some contents.
-/
import proofs.«900438_g7700000000000439_dist_gemm_ar_m1024_k1024_n1024_f32_gelu_v7x_i32_1_alg».proof.Proof.Word.Protocol
import Idealize.ShloMosaic.Rules.PointsTo

noncomputable section

namespace Cert.Kernel.Regions

open Cert.Kernel Cert.Kernel.Gen Cert.Kernel.AllReduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## A buffer held whole is held by the pieces of a partition of its elements -/

section Generic
variable {nD : Nat} {τ : Topo} {sig : RefSig} {Ix : Type} [DecidableEq Ix]
variable {Val : EltTy → Type} {Name : Type} [DecidableEq Name]
variable {U : Type} [URA U] {Lvl : Type}
local notation "𝕄" => MT nD τ sig Ix Val Name U Lvl

theorem univ_eq_biUnion {T : Type} [Fintype T] [DecidableEq T] {α : Type} [Fintype α] [DecidableEq α] (K : T → Finset α)
    (hc : ∀ i, ∃ t, i ∈ K t) : (Finset.univ : Finset α) = Finset.univ.biUnion K := by
  ext i
  simp only [Finset.mem_univ, Finset.mem_biUnion, true_and, true_iff]
  exact hc i

/-- Held whole at `f`, a buffer is held piece by piece at `f`. -/
theorem pointsTo_univ_eq_bigSep {T : Type} [Fintype T] [DecidableEq T] {ℓ : Loc nD τ sig} (K : T → Finset (Idx ℓ))
    (hd : ∀ t t', t ≠ t' → Disjoint (K t) (K t')) (hc : ∀ i, ∃ t, i ∈ K t) (q : PosShare TreeShare) (f : Buf Val ℓ) :
    (ℓ ↦{q} f : sProp 𝕄) = bigSep Finset.univ fun t => ℓ ↦[K t]{q} f := by
  rw [← pointsTo_biUnion Finset.univ K (fun t _ t' _ h => hd t t' h), ← univ_eq_biUnion K hc]

/-- Held piece by piece at contents `fs t`, it is held whole at contents that agree with `fs t` on piece `t`. -/
theorem bigSep_pointsTo_join_univ {T : Type} [Fintype T] [DecidableEq T] {ℓ : Loc nD τ sig} (K : T → Finset (Idx ℓ))
    (hd : ∀ t t', t ≠ t' → Disjoint (K t) (K t')) (hc : ∀ i, ∃ t, i ∈ K t) (q : PosShare TreeShare)
    (fs : T → Buf Val ℓ) (f₀ : Buf Val ℓ) :
    bigSep Finset.univ (fun t => ℓ ↦[K t]{q} fs t)
      ⊢ (iprop(∃ g, ⌜∀ t, ∀ i ∈ K t, g i = fs t i⌝ ∗ ℓ ↦{q} g) : sProp 𝕄) := by
  rw [univ_eq_biUnion K hc]
  refine (pointsTo_biUnion_join Finset.univ K fs f₀ (fun t _ t' _ h => hd t t' h)).trans ?_
  iintro ⟨%g, %hg, H⟩
  iexists g
  isplitr
  · ipureintro; exact fun t i hi => hg t (Finset.mem_univ t) i hi
  · iexact H

end Generic

/-! ## The pieces' element sets -/

theorem slot_set (h : Fin 2) (s : Fin 32) :
    ((slot h s).view.set : Finset S2x32x32x512.Idx)
      = (Rect.unit (s := S2x32x32x512) ![h.val, s.val, 0, 0] S1x1x32x512.size (inb_slot h s)).set :=
  (View.set_reshape _ _).trans (View.set_slice_whole cc0_scratch2 _)

/-- Slot `(h, s)` holds the elements whose first two coordinates are `h` and `s`. -/
theorem mem_slot_set (h : Fin 2) (s : Fin 32) (i : S2x32x32x512.Idx) :
    i ∈ ((slot h s).view.set : Finset S2x32x32x512.Idx) ↔ (i 0).val = h.val ∧ (i 1).val = s.val := by
  refine (Finset.ext_iff.mp (slot_set h s) i).trans (Rect.mem_set_unit.trans ?_)
  constructor
  · intro H
    have h0 : h.val ≤ (i 0).val ∧ (i 0).val < h.val + 1 := H 0
    have h1 : s.val ≤ (i 1).val ∧ (i 1).val < s.val + 1 := H 1
    omega
  · rintro ⟨e0, e1⟩ a
    match a with
    | ⟨0, _⟩ => show h.val ≤ (i 0).val ∧ (i 0).val < h.val + 1; omega
    | ⟨1, _⟩ => show s.val ≤ (i 1).val ∧ (i 1).val < s.val + 1; omega
    | ⟨2, _⟩ => show 0 ≤ (i 2).val ∧ (i 2).val < 0 + 32; have : (i 2).val < 32 := (i 2).isLt; omega
    | ⟨3, _⟩ => show 0 ≤ (i 3).val ∧ (i 3).val < 0 + 512; have : (i 3).val < 512 := (i 3).isLt; omega

theorem chunk_acc_set (d : Dev nD) (h : Fin 2) :
    ((chunk accM d h).view.set : Finset S1024x1024.Idx)
      = (Rect.unit (s := S1024x1024) ![32 * d.val, 512 * h.val] S32x512.size (inb_chunk d h)).set :=
  View.set_slice_whole cc0_scratch0 _

theorem chunk_out_set (d : Dev nD) (h : Fin 2) :
    ((chunk outM d h).view.set : Finset S1024x1024.Idx)
      = (Rect.unit (s := S1024x1024) ![32 * d.val, 512 * h.val] S32x512.size (inb_chunk d h)).set :=
  View.set_slice_whole cc0_scratch1 _

theorem mem_chunk_rect (d : Dev nD) (h : Fin 2) (i : S1024x1024.Idx) :
    i ∈ (Rect.unit (s := S1024x1024) ![32 * d.val, 512 * h.val] S32x512.size (inb_chunk d h)).set
      ↔ (i 0).val / 32 = d.val ∧ (i 1).val / 512 = h.val := by
  refine Rect.mem_set_unit.trans ?_
  constructor
  · intro H
    have h0 : 32 * d.val ≤ (i 0).val ∧ (i 0).val < 32 * d.val + 32 := H 0
    have h1 : 512 * h.val ≤ (i 1).val ∧ (i 1).val < 512 * h.val + 512 := H 1
    omega
  · rintro ⟨e0, e1⟩ a
    match a with
    | ⟨0, _⟩ => show 32 * d.val ≤ (i 0).val ∧ (i 0).val < 32 * d.val + 32; omega
    | ⟨1, _⟩ => show 512 * h.val ≤ (i 1).val ∧ (i 1).val < 512 * h.val + 512; omega

/-- Chunk `(d, h)` of the partial product holds the rows of row chunk `d` and the columns of half `h`. -/
theorem mem_chunk_acc_set (d : Dev nD) (h : Fin 2) (i : S1024x1024.Idx) :
    i ∈ ((chunk accM d h).view.set : Finset S1024x1024.Idx) ↔ (i 0).val / 32 = d.val ∧ (i 1).val / 512 = h.val :=
  (Finset.ext_iff.mp (chunk_acc_set d h) i).trans (mem_chunk_rect d h i)

/-- The gather buffer's chunk `(d, h)` likewise. -/
theorem mem_chunk_out_set (d : Dev nD) (h : Fin 2) (i : S1024x1024.Idx) :
    i ∈ ((chunk outM d h).view.set : Finset S1024x1024.Idx) ↔ (i 0).val / 32 = d.val ∧ (i 1).val / 512 = h.val :=
  (Finset.ext_iff.mp (chunk_out_set d h) i).trans (mem_chunk_rect d h i)

/-! ## The 64 pieces of a buffer -/

/-- The 64 (half, place) pairs, half-major. -/
abbrev pieces : List (Fin 2 × Fin 32) := [(0, 0), (0, 1), (0, 2), (0, 3), (0, 4), (0, 5), (0, 6), (0, 7), (0, 8), (0, 9), (0, 10), (0, 11), (0, 12), (0, 13), (0, 14), (0, 15), (0, 16), (0, 17), (0, 18), (0, 19), (0, 20), (0, 21), (0, 22), (0, 23), (0, 24), (0, 25), (0, 26), (0, 27), (0, 28), (0, 29), (0, 30), (0, 31), (1, 0), (1, 1), (1, 2), (1, 3), (1, 4), (1, 5), (1, 6), (1, 7), (1, 8), (1, 9), (1, 10), (1, 11), (1, 12), (1, 13), (1, 14), (1, 15), (1, 16), (1, 17), (1, 18), (1, 19), (1, 20), (1, 21), (1, 22), (1, 23), (1, 24), (1, 25), (1, 26), (1, 27), (1, 28), (1, 29), (1, 30), (1, 31)]

theorem pieces_univ : (Finset.univ : Finset (Fin 2 × Fin 32)) = pieces.toFinset := by decide +kernel
theorem pieces_nodup : pieces.Nodup := by decide +kernel

theorem slot_disjoint (p p' : Fin 2 × Fin 32) (hne : p ≠ p') :
    Disjoint ((slot p.1 p.2).view.set : Finset S2x32x32x512.Idx) (slot p'.1 p'.2).view.set :=
  Finset.disjoint_left.mpr fun i hi hi' => hne (by
    have a := (mem_slot_set _ _ i).mp hi; have b := (mem_slot_set _ _ i).mp hi'
    exact Prod.ext (Fin.ext (a.1.symm.trans b.1)) (Fin.ext (a.2.symm.trans b.2)))

theorem slot_cover (i : S2x32x32x512.Idx) : ∃ p : Fin 2 × Fin 32, i ∈ ((slot p.1 p.2).view.set : Finset S2x32x32x512.Idx) :=
  ⟨(⟨(i 0).val, (i 0).isLt⟩, ⟨(i 1).val, (i 1).isLt⟩), (mem_slot_set _ _ i).mpr ⟨rfl, rfl⟩⟩

theorem chunk_acc_disjoint (p p' : Fin 2 × Fin 32) (hne : p ≠ p') :
    Disjoint ((chunk accM p.2 p.1).view.set : Finset S1024x1024.Idx) (chunk accM p'.2 p'.1).view.set :=
  Finset.disjoint_left.mpr fun i hi hi' => hne (by
    have a := (mem_chunk_acc_set _ _ i).mp hi; have b := (mem_chunk_acc_set _ _ i).mp hi'
    exact Prod.ext (Fin.ext (a.2.symm.trans b.2)) (Fin.ext (a.1.symm.trans b.1)))

theorem chunk_acc_cover (i : S1024x1024.Idx) : ∃ p : Fin 2 × Fin 32, i ∈ ((chunk accM p.2 p.1).view.set : Finset S1024x1024.Idx) :=
  ⟨(⟨(i 1).val / 512, by have : (i 1).val < 1024 := (i 1).isLt; omega⟩, ⟨(i 0).val / 32, by have : (i 0).val < 1024 := (i 0).isLt; omega⟩),
    (mem_chunk_acc_set _ _ i).mpr ⟨rfl, rfl⟩⟩

theorem chunk_out_disjoint (p p' : Fin 2 × Fin 32) (hne : p ≠ p') :
    Disjoint ((chunk outM p.2 p.1).view.set : Finset S1024x1024.Idx) (chunk outM p'.2 p'.1).view.set :=
  Finset.disjoint_left.mpr fun i hi hi' => hne (by
    have a := (mem_chunk_out_set _ _ i).mp hi; have b := (mem_chunk_out_set _ _ i).mp hi'
    exact Prod.ext (Fin.ext (a.2.symm.trans b.2)) (Fin.ext (a.1.symm.trans b.1)))

theorem chunk_out_cover (i : S1024x1024.Idx) : ∃ p : Fin 2 × Fin 32, i ∈ ((chunk outM p.2 p.1).view.set : Finset S1024x1024.Idx) :=
  ⟨(⟨(i 1).val / 512, by have : (i 1).val < 1024 := (i 1).isLt; omega⟩, ⟨(i 0).val / 32, by have : (i 0).val < 1024 := (i 0).isLt; omega⟩),
    (mem_chunk_out_set _ _ i).mpr ⟨rfl, rfl⟩⟩

/-! ## Whole buffers and their pieces -/

section Pieces
variable {Ix : Type} [DecidableEq Ix] {Val : EltTy → Type} {Name : Type} [DecidableEq Name] {U : Type} [URA U] {Lvl : Type}
local notation "𝕄" => MT nD τ sig Ix Val Name U Lvl

/-- The receive buffer held whole is its 64 slots held, `(0,0) … (0,31), (1,0) … (1,31)`. -/
theorem buf_eq_slots (c : Dev nD) (q : PosShare TreeShare) (f : Buf Val ((c : Thread nD τ).loc cc0_scratch2)) :
    ((c : Thread nD τ).loc cc0_scratch2 ↦{q} f : sProp 𝕄)
      = bigSepL pieces fun p => (slot p.1 p.2).view.loc (c : Thread nD τ) ↦[(slot p.1 p.2).view.set]{q} f := by
  rw [← bigSep_univ_eq_bigSepL pieces pieces_univ pieces_nodup]
  exact pointsTo_univ_eq_bigSep (ℓ := (c : Thread nD τ).loc cc0_scratch2) (T := Fin 2 × Fin 32)
    (fun p => ((slot p.1 p.2).view.set : Finset S2x32x32x512.Idx)) slot_disjoint slot_cover q f

/-- The partial product held whole is its 64 chunks held: piece `(h, d)` is `chunk accM d h`. -/
theorem acc_eq_chunks (c : Dev nD) (q : PosShare TreeShare) (f : Buf Val ((c : Thread nD τ).loc cc0_scratch0)) :
    ((c : Thread nD τ).loc cc0_scratch0 ↦{q} f : sProp 𝕄)
      = bigSepL pieces fun p => (chunk accM p.2 p.1).view.loc (c : Thread nD τ) ↦[(chunk accM p.2 p.1).view.set]{q} f := by
  rw [← bigSep_univ_eq_bigSepL pieces pieces_univ pieces_nodup]
  exact pointsTo_univ_eq_bigSep (ℓ := (c : Thread nD τ).loc cc0_scratch0) (T := Fin 2 × Fin 32)
    (fun p => ((chunk accM p.2 p.1).view.set : Finset S1024x1024.Idx)) chunk_acc_disjoint chunk_acc_cover q f

/-- The gather buffer held whole is its 64 chunks held: piece `(h, d)` is `chunk outM d h`. -/
theorem out_eq_chunks (c : Dev nD) (q : PosShare TreeShare) (f : Buf Val ((c : Thread nD τ).loc cc0_scratch1)) :
    ((c : Thread nD τ).loc cc0_scratch1 ↦{q} f : sProp 𝕄)
      = bigSepL pieces fun p => (chunk outM p.2 p.1).view.loc (c : Thread nD τ) ↦[(chunk outM p.2 p.1).view.set]{q} f := by
  rw [← bigSep_univ_eq_bigSepL pieces pieces_univ pieces_nodup]
  exact pointsTo_univ_eq_bigSep (ℓ := (c : Thread nD τ).loc cc0_scratch1) (T := Fin 2 × Fin 32)
    (fun p => ((chunk outM p.2 p.1).view.set : Finset S1024x1024.Idx)) chunk_out_disjoint chunk_out_cover q f

/-- The 64 slots held at contents of their own make the receive buffer held whole at some contents. -/
theorem slots_join (c : Dev nD) (q : PosShare TreeShare) (fs : Fin 2 × Fin 32 → Buf Val ((c : Thread nD τ).loc cc0_scratch2)) :
    bigSepL pieces (fun p => (slot p.1 p.2).view.loc (c : Thread nD τ) ↦[(slot p.1 p.2).view.set]{q} fs p)
      ⊢ (iprop(∃ g, (c : Thread nD τ).loc cc0_scratch2 ↦{q} g) : sProp 𝕄) := by
  rw [← bigSep_univ_eq_bigSepL pieces pieces_univ pieces_nodup]
  refine (bigSep_pointsTo_join_univ (ℓ := (c : Thread nD τ).loc cc0_scratch2) (T := Fin 2 × Fin 32)
    (fun p => ((slot p.1 p.2).view.set : Finset S2x32x32x512.Idx)) slot_disjoint slot_cover q fs (fs (0, 0))).trans ?_
  iintro ⟨%g, -, H⟩
  iexists g
  iexact H

/-- The 64 chunks of the partial product likewise. -/
theorem acc_chunks_join (c : Dev nD) (q : PosShare TreeShare) (fs : Fin 2 × Fin 32 → Buf Val ((c : Thread nD τ).loc cc0_scratch0)) :
    bigSepL pieces (fun p => (chunk accM p.2 p.1).view.loc (c : Thread nD τ) ↦[(chunk accM p.2 p.1).view.set]{q} fs p)
      ⊢ (iprop(∃ g, (c : Thread nD τ).loc cc0_scratch0 ↦{q} g) : sProp 𝕄) := by
  rw [← bigSep_univ_eq_bigSepL pieces pieces_univ pieces_nodup]
  refine (bigSep_pointsTo_join_univ (ℓ := (c : Thread nD τ).loc cc0_scratch0) (T := Fin 2 × Fin 32)
    (fun p => ((chunk accM p.2 p.1).view.set : Finset S1024x1024.Idx)) chunk_acc_disjoint chunk_acc_cover q fs (fs (0, 0))).trans ?_
  iintro ⟨%g, -, H⟩
  iexists g
  iexact H

/-- The 64 chunks of the gather buffer likewise. -/
theorem out_chunks_join (c : Dev nD) (q : PosShare TreeShare) (fs : Fin 2 × Fin 32 → Buf Val ((c : Thread nD τ).loc cc0_scratch1)) :
    bigSepL pieces (fun p => (chunk outM p.2 p.1).view.loc (c : Thread nD τ) ↦[(chunk outM p.2 p.1).view.set]{q} fs p)
      ⊢ (iprop(∃ g, (c : Thread nD τ).loc cc0_scratch1 ↦{q} g) : sProp 𝕄) := by
  rw [← bigSep_univ_eq_bigSepL pieces pieces_univ pieces_nodup]
  refine (bigSep_pointsTo_join_univ (ℓ := (c : Thread nD τ).loc cc0_scratch1) (T := Fin 2 × Fin 32)
    (fun p => ((chunk outM p.2 p.1).view.set : Finset S1024x1024.Idx)) chunk_out_disjoint chunk_out_cover q fs (fs (0, 0))).trans ?_
  iintro ⟨%g, -, H⟩
  iexists g
  iexact H

end Pieces

/-- info: 'Cert.Kernel.Regions.buf_eq_slots' depends on axioms: [propext, Classical.choice, Quot.sound] -/
#guard_msgs in #print axioms buf_eq_slots

/-- info: 'Cert.Kernel.Regions.slots_join' depends on axioms: [propext, Classical.choice, Quot.sound] -/
#guard_msgs in #print axioms slots_join

end Cert.Kernel.Regions

end
-- ==== Proof.Word.OwnPieces.lean ====
/-
  One piece of a scratch buffer at a time: the loads and stores the body makes at the rectangle of a slot of the
  receive buffer, or of a row chunk of the partial product or of the gather buffer, while the device holds that piece
  alone; and what the piece holds afterwards, named by the block stored.
-/
import proofs.«900438_g7700000000000439_dist_gemm_ar_m1024_k1024_n1024_f32_gelu_v7x_i32_1_alg».proof.Proof.Word.RegionSplit
import Idealize.ShloMosaic.Lib.Exec.Geometry
import Idealize.ShloMosaic.Lib.Exec.Context
import Idealize.ShloMosaic.Lib.Pipeline.Value

noncomputable section

namespace Cert.Kernel.Regions

open Cert.Kernel Cert.Kernel.Gen Cert.Kernel.AllReduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix4)

/-! ## The own slot: the 1 x 1 x 32 x 512 rectangle at (h, s, 0, 0) of the receive buffer is slot (h, s) -/

theorem access_slot_set (h : Fin 2) (s : Fin 32) {off : Fin 4 → Nat} (hoff : off = ![h.val, s.val, 0, 0])
    (inb : ∀ a, off a + S1x1x32x512.size a ≤ S2x32x32x512.size a) :
    ((bufM.access (Rect.unit (s := S2x32x32x512) off S1x1x32x512.size inb)).set : Finset S2x32x32x512.Idx)
      = (slot h s).view.set := by
  subst hoff
  exact (View.set_slice_whole cc0_scratch2 _).trans (slot_set h s).symm

/-! ## Row chunk (d, h) of the partial product: the 32 x 512 rectangle at (32 d, 512 h) -/

theorem access_chunk_acc_set (d : Dev nD) (h : Fin 2) {off : Fin 2 → Nat} (hoff : off = ![32 * d.val, 512 * h.val])
    (inb : ∀ a, off a + S32x512.size a ≤ S1024x1024.size a) :
    ((accM.access (Rect.unit (s := S1024x1024) off S32x512.size inb)).set : Finset S1024x1024.Idx)
      = (chunk accM d h).view.set := by
  subst hoff
  exact (View.set_slice_whole cc0_scratch0 _).trans (chunk_acc_set d h).symm

/-- A block written through the rectangle is read back through the chunk. -/
theorem read_chunk_acc_write {Val : EltTy → Type} (d : Dev nD) (h : Fin 2) {off : Fin 2 → Nat} (hoff : off = ![32 * d.val, 512 * h.val])
    (inb : ∀ a, off a + S32x512.size a ≤ S1024x1024.size a)
    (f : (accM.access (Rect.unit (s := S1024x1024) off S32x512.size inb)).ty.Contents Val) (w : S32x512.Idx → Val .bf16) :
    (chunk accM d h).view.read Val ((accM.access (Rect.unit (s := S1024x1024) off S32x512.size inb)).write Val f w Finset.univ) = w := by
  subst hoff
  exact View.read_write_univ (v := accM.access (Rect.unit (s := S1024x1024) ![32 * d.val, 512 * h.val] S32x512.size inb)) f w

/-! ## Row chunk (d, h) of the gather buffer: the 32 x 512 rectangle at (32 d, 512 h) -/

theorem access_chunk_out_set (d : Dev nD) (h : Fin 2) {off : Fin 2 → Nat} (hoff : off = ![32 * d.val, 512 * h.val])
    (inb : ∀ a, off a + S32x512.size a ≤ S1024x1024.size a) :
    ((outM.access (Rect.unit (s := S1024x1024) off S32x512.size inb)).set : Finset S1024x1024.Idx)
      = (chunk outM d h).view.set := by
  subst hoff
  exact (View.set_slice_whole cc0_scratch1 _).trans (chunk_out_set d h).symm

/-- A block written through the rectangle is read back through the chunk. -/
theorem read_chunk_out_write {Val : EltTy → Type} (d : Dev nD) (h : Fin 2) {off : Fin 2 → Nat} (hoff : off = ![32 * d.val, 512 * h.val])
    (inb : ∀ a, off a + S32x512.size a ≤ S1024x1024.size a)
    (f : (outM.access (Rect.unit (s := S1024x1024) off S32x512.size inb)).ty.Contents Val) (w : S32x512.Idx → Val .bf16) :
    (chunk outM d h).view.read Val ((outM.access (Rect.unit (s := S1024x1024) off S32x512.size inb)).write Val f w Finset.univ) = w := by
  subst hoff
  exact View.read_write_univ (v := outM.access (Rect.unit (s := S1024x1024) ![32 * d.val, 512 * h.val] S32x512.size inb)) f w

section Values
variable {Val : EltTy → Type} [∀ e, Nonempty (Val e)]

/-- A 32 x 512 block written through the rectangle as a 1 x 1 x 32 x 512 vector is read back through the slot as the block. -/
theorem read_slot_write (h : Fin 2) (s : Fin 32) {off : Fin 4 → Nat} (hoff : off = ![h.val, s.val, 0, 0])
    (inb : ∀ a, off a + S1x1x32x512.size a ≤ S2x32x32x512.size a)
    (f : (bufM.access (Rect.unit (s := S2x32x32x512) off S1x1x32x512.size inb)).ty.Contents Val)
    (v : S32x512.Idx → Val .bf16) (hsc : S32x512.ShapeCasts S1x1x32x512) :
    (slot h s).view.read Val ((bufM.access (Rect.unit (s := S2x32x32x512) off S1x1x32x512.size inb)).write Val f
        (shapeCast S1x1x32x512 v hsc) Finset.univ) = v := by
  subst hoff
  funext y
  have hw := View.write_emb_of_mem (v := bufM.access (Rect.unit (s := S2x32x32x512) ![h.val, s.val, 0, 0] S1x1x32x512.size inb))
    (Val := Val) f (shapeCast S1x1x32x512 v hsc) (M := Finset.univ)
    (x := Shape.reshapeEquiv squeezes_S1x1x32x512_S32x512.numel_eq y) (Finset.mem_univ _)
  show _root_.cast _ (View.write Val (bufM.access (Rect.unit (s := S2x32x32x512) ![h.val, s.val, 0, 0] S1x1x32x512.size inb)) f
      (shapeCast S1x1x32x512 v hsc) Finset.univ
      ((bufM.access (Rect.unit (s := S2x32x32x512) ![h.val, s.val, 0, 0] S1x1x32x512.size inb)).emb
        (Shape.reshapeEquiv squeezes_S1x1x32x512_S32x512.numel_eq y))) = v y
  rw [hw]
  refine (cast_eq _ _).trans ((cast_eq _ _).trans ?_)
  show v (Shape.reshapeEquiv _ (Shape.reshapeEquiv _ y)) = v y
  rw [Shape.reshapeEquiv_reshapeEquiv, Shape.reshapeEquiv_self]

end Values

section Steps
variable {Ix : Type} [DecidableEq Ix] {Val : EltTy → Type} {Name : Type} [DecidableEq Name] {U : Type} [URA U]
variable {Lvl : Type} [Preorder Lvl] {Λ : Labels}
variable {defs : Defs nD τ sig Val Λ} (𝒱 : Variants) (c : Dev nD) (bd : Option 𝒱.V) {Γ : PendingWaitsCtx sig Ix} (E : Set Name)
variable {α : Type} {Q : α → sProp (MT nD τ sig Ix Val Name U Lvl)}
local notation "𝕄" => MT nD τ sig Ix Val Name U Lvl

/-- A load of the 1 x 1 x 32 x 512 rectangle at (h, s, 0, 0), holding slot (h, s) at any share. -/
theorem wp_load_slot (h : Fin 2) (s : Fin 32) {off : Fin 4 → Nat} (hoff : off = ![h.val, s.val, 0, 0])
    {inb : ∀ a, off a + S1x1x32x512.size a ≤ S2x32x32x512.size a}
    {hl : bufM.view.LoadsAt (Rect.unit (s := S2x32x32x512) off S1x1x32x512.size inb).toLoadRect}
    {k : ((Rect.unit (s := S2x32x32x512) off S1x1x32x512.size inb).shape.Idx → Val .bf16) → Prog (TpuEff nD τ sig Val Λ .tc) α}
    {q : PosShare TreeShare} {f : Buf Val ((slot h s).view.loc (c : Thread nD τ))} :
    ((slot h s).view.loc (c : Thread nD τ) ↦[(slot h s).view.set]{q} f : sProp 𝕄)
      ⊢ iprop((((slot h s).view.loc (c : Thread nD τ) ↦[(slot h s).view.set]{q} f)
            -∗ wp frame (wpE' defs 𝒱 (c : Thread nD τ) bd Γ) E
                (k ((bufM.access (Rect.unit (s := S2x32x32x512) off S1x1x32x512.size inb)).read Val f)) Q)
          -∗ wp frame (wpE' defs 𝒱 (c : Thread nD τ) bd Γ) E
              (.op (.load bufM (Rect.unit (s := S2x32x32x512) off S1x1x32x512.size inb).toLoadRect hl) k) Q) :=
  wp_load_rect (defs := defs) (Γ := Γ) (Q := Q) 𝒱 (c : Thread nD τ) bd E (m := bufM)
    (r := Rect.unit (s := S2x32x32x512) off S1x1x32x512.size inb) (hl := hl) (k := k) (S := (slot h s).view.set) (q := q) (f := f)
    (subset_of_eq (access_slot_set h s hoff inb))

/-- A store of a 32 x 512 block `v`, seen as 1 x 1 x 32 x 512, into that rectangle, holding slot (h, s) whole: the slot then
    holds `v`. -/
theorem wp_store_slot [∀ e, Nonempty (Val e)] (h : Fin 2) (s : Fin 32) {off : Fin 4 → Nat} (hoff : off = ![h.val, s.val, 0, 0])
    {inb : ∀ a, off a + S1x1x32x512.size a ≤ S2x32x32x512.size a}
    (v : S32x512.Idx → Val .bf16) (hsc : S32x512.ShapeCasts S1x1x32x512)
    {hx : (bufM.access (Rect.unit (s := S2x32x32x512) off S1x1x32x512.size inb)).Stores Finset.univ}
    {hm : (Finset.univ : Finset (Rect.unit (s := S2x32x32x512) off S1x1x32x512.size inb).shape.Idx) = Finset.univ
      ∨ ∀ a, (Rect.unit (s := S2x32x32x512) off S1x1x32x512.size inb).stride a = 1}
    {k : PUnit → Prog (TpuEff nD τ sig Val Λ .tc) α}
    {f : Buf Val ((slot h s).view.loc (c : Thread nD τ))} :
    ((slot h s).view.loc (c : Thread nD τ) ↦[(slot h s).view.set]{fullShare} f : sProp 𝕄)
      ⊢ iprop((((slot h s).view.loc (c : Thread nD τ) ↦[(slot h s).view.set]{fullShare} (slot h s).view.rep v)
            -∗ wp frame (wpE' defs 𝒱 (c : Thread nD τ) bd Γ) E (k ⟨⟩) Q)
          -∗ wp frame (wpE' defs 𝒱 (c : Thread nD τ) bd Γ) E
              (.op (.store bufM (Rect.unit (s := S2x32x32x512) off S1x1x32x512.size inb) (shapeCast S1x1x32x512 v hsc)
                Finset.univ hx hm) k) Q) := by
  have e : ((slot h s).view.loc (c : Thread nD τ) ↦[(slot h s).view.set]{fullShare} (slot h s).view.rep v : sProp 𝕄)
      = ((slot h s).view.loc (c : Thread nD τ) ↦[(slot h s).view.set]{fullShare}
          (bufM.access (Rect.unit (s := S2x32x32x512) off S1x1x32x512.size inb)).write Val f (shapeCast S1x1x32x512 v hsc) Finset.univ) := by
    refine pointsTo_congr fun i hi => ?_
    obtain ⟨y, -, rfl⟩ := Finset.mem_map.mp hi
    refine (View.rep_emb (slot h s).view v y).trans ((cast_eq _ _).trans ?_)
    have hr := congrFun (read_slot_write h s hoff inb f v hsc) y
    exact hr.symm.trans ((View.read_apply _ _).trans (cast_eq _ _))
  rw [e]
  have hS : (bufM.access (Rect.unit (s := S2x32x32x512) off S1x1x32x512.size inb)).setOn Finset.univ
      ⊆ ((slot h s).view.set : Finset S2x32x32x512.Idx) :=
    (subset_of_eq (View.setOn_univ _)).trans (subset_of_eq (access_slot_set h s hoff inb))
  have key := wp_store (defs := defs) (Γ := Γ) (Q := Q) 𝒱 (c : Thread nD τ) bd E (m := bufM) (r := Rect.unit (s := S2x32x32x512) off S1x1x32x512.size inb)
    (w := shapeCast S1x1x32x512 v hsc) (Mk := Finset.univ) (hx := hx) (hm := hm) (k := k) (S := (slot h s).view.set) (f := f) hS
  exact key

/-- A load of the 32 x 512 rectangle at (32 d, 512 h) of that buffer, holding chunk (d, h) at any share. -/
theorem wp_load_chunk_acc (d : Dev nD) (h : Fin 2) {off : Fin 2 → Nat} (hoff : off = ![32 * d.val, 512 * h.val])
    {inb : ∀ a, off a + S32x512.size a ≤ S1024x1024.size a}
    {hl : accM.view.LoadsAt (Rect.unit (s := S1024x1024) off S32x512.size inb).toLoadRect}
    {k : ((Rect.unit (s := S1024x1024) off S32x512.size inb).shape.Idx → Val .bf16) → Prog (TpuEff nD τ sig Val Λ .tc) α}
    {q : PosShare TreeShare} {f : Buf Val ((chunk accM d h).view.loc (c : Thread nD τ))} :
    ((chunk accM d h).view.loc (c : Thread nD τ) ↦[(chunk accM d h).view.set]{q} f : sProp 𝕄)
      ⊢ iprop((((chunk accM d h).view.loc (c : Thread nD τ) ↦[(chunk accM d h).view.set]{q} f)
            -∗ wp frame (wpE' defs 𝒱 (c : Thread nD τ) bd Γ) E
                (k ((accM.access (Rect.unit (s := S1024x1024) off S32x512.size inb)).read Val f)) Q)
          -∗ wp frame (wpE' defs 𝒱 (c : Thread nD τ) bd Γ) E
              (.op (.load accM (Rect.unit (s := S1024x1024) off S32x512.size inb).toLoadRect hl) k) Q) :=
  wp_load_rect (defs := defs) (Γ := Γ) (Q := Q) 𝒱 (c : Thread nD τ) bd E (m := accM)
    (r := Rect.unit (s := S1024x1024) off S32x512.size inb) (hl := hl) (k := k) (S := (chunk accM d h).view.set) (q := q) (f := f)
    (subset_of_eq (access_chunk_acc_set d h hoff inb))

/-- The block read there, when the chunk holds `w`. -/
theorem read_access_chunk_acc_rep [∀ e, Nonempty (Val e)] (d : Dev nD) (h : Fin 2) {off : Fin 2 → Nat} (hoff : off = ![32 * d.val, 512 * h.val])
    (inb : ∀ a, off a + S32x512.size a ≤ S1024x1024.size a) (w : S32x512.Idx → Val .bf16) :
    (accM.access (Rect.unit (s := S1024x1024) off S32x512.size inb)).read Val ((chunk accM d h).view.rep w) = w := by
  subst hoff
  exact View.read_rep (chunk accM d h).view w

/-- A store of a 32 x 512 block `w` into that rectangle, holding chunk (d, h) whole: the chunk then holds `w`. -/
theorem wp_store_chunk_acc [∀ e, Nonempty (Val e)] (d : Dev nD) (h : Fin 2) {off : Fin 2 → Nat} (hoff : off = ![32 * d.val, 512 * h.val])
    {inb : ∀ a, off a + S32x512.size a ≤ S1024x1024.size a}
    (w : S32x512.Idx → Val .bf16)
    {hx : (accM.access (Rect.unit (s := S1024x1024) off S32x512.size inb)).Stores Finset.univ}
    {hm : (Finset.univ : Finset (Rect.unit (s := S1024x1024) off S32x512.size inb).shape.Idx) = Finset.univ
      ∨ ∀ a, (Rect.unit (s := S1024x1024) off S32x512.size inb).stride a = 1}
    {k : PUnit → Prog (TpuEff nD τ sig Val Λ .tc) α}
    {f : Buf Val ((chunk accM d h).view.loc (c : Thread nD τ))} :
    ((chunk accM d h).view.loc (c : Thread nD τ) ↦[(chunk accM d h).view.set]{fullShare} f : sProp 𝕄)
      ⊢ iprop((((chunk accM d h).view.loc (c : Thread nD τ) ↦[(chunk accM d h).view.set]{fullShare} (chunk accM d h).view.rep w)
            -∗ wp frame (wpE' defs 𝒱 (c : Thread nD τ) bd Γ) E (k ⟨⟩) Q)
          -∗ wp frame (wpE' defs 𝒱 (c : Thread nD τ) bd Γ) E
              (.op (.store accM (Rect.unit (s := S1024x1024) off S32x512.size inb) w Finset.univ hx hm) k) Q) := by
  have e : ((chunk accM d h).view.loc (c : Thread nD τ) ↦[(chunk accM d h).view.set]{fullShare} (chunk accM d h).view.rep w : sProp 𝕄)
      = ((chunk accM d h).view.loc (c : Thread nD τ) ↦[(chunk accM d h).view.set]{fullShare}
          (accM.access (Rect.unit (s := S1024x1024) off S32x512.size inb)).write Val f w Finset.univ) := by
    refine pointsTo_congr fun i hi => ?_
    obtain ⟨y, -, rfl⟩ := Finset.mem_map.mp hi
    refine (View.rep_emb (chunk accM d h).view w y).trans ((cast_eq _ _).trans ?_)
    have hr := congrFun (read_chunk_acc_write d h hoff inb f w) y
    exact hr.symm.trans ((View.read_apply _ _).trans (cast_eq _ _))
  rw [e]
  have hS : (accM.access (Rect.unit (s := S1024x1024) off S32x512.size inb)).setOn Finset.univ
      ⊆ ((chunk accM d h).view.set : Finset S1024x1024.Idx) :=
    (subset_of_eq (View.setOn_univ _)).trans (subset_of_eq (access_chunk_acc_set d h hoff inb))
  have key := wp_store (defs := defs) (Γ := Γ) (Q := Q) 𝒱 (c : Thread nD τ) bd E (m := accM) (r := Rect.unit (s := S1024x1024) off S32x512.size inb)
    (w := w) (Mk := Finset.univ) (hx := hx) (hm := hm) (k := k) (S := (chunk accM d h).view.set) (f := f) hS
  exact key

/-- A load of the 32 x 512 rectangle at (32 d, 512 h) of that buffer, holding chunk (d, h) at any share. -/
theorem wp_load_chunk_out (d : Dev nD) (h : Fin 2) {off : Fin 2 → Nat} (hoff : off = ![32 * d.val, 512 * h.val])
    {inb : ∀ a, off a + S32x512.size a ≤ S1024x1024.size a}
    {hl : outM.view.LoadsAt (Rect.unit (s := S1024x1024) off S32x512.size inb).toLoadRect}
    {k : ((Rect.unit (s := S1024x1024) off S32x512.size inb).shape.Idx → Val .bf16) → Prog (TpuEff nD τ sig Val Λ .tc) α}
    {q : PosShare TreeShare} {f : Buf Val ((chunk outM d h).view.loc (c : Thread nD τ))} :
    ((chunk outM d h).view.loc (c : Thread nD τ) ↦[(chunk outM d h).view.set]{q} f : sProp 𝕄)
      ⊢ iprop((((chunk outM d h).view.loc (c : Thread nD τ) ↦[(chunk outM d h).view.set]{q} f)
            -∗ wp frame (wpE' defs 𝒱 (c : Thread nD τ) bd Γ) E
                (k ((outM.access (Rect.unit (s := S1024x1024) off S32x512.size inb)).read Val f)) Q)
          -∗ wp frame (wpE' defs 𝒱 (c : Thread nD τ) bd Γ) E
              (.op (.load outM (Rect.unit (s := S1024x1024) off S32x512.size inb).toLoadRect hl) k) Q) :=
  wp_load_rect (defs := defs) (Γ := Γ) (Q := Q) 𝒱 (c : Thread nD τ) bd E (m := outM)
    (r := Rect.unit (s := S1024x1024) off S32x512.size inb) (hl := hl) (k := k) (S := (chunk outM d h).view.set) (q := q) (f := f)
    (subset_of_eq (access_chunk_out_set d h hoff inb))

/-- The block read there, when the chunk holds `w`. -/
theorem read_access_chunk_out_rep [∀ e, Nonempty (Val e)] (d : Dev nD) (h : Fin 2) {off : Fin 2 → Nat} (hoff : off = ![32 * d.val, 512 * h.val])
    (inb : ∀ a, off a + S32x512.size a ≤ S1024x1024.size a) (w : S32x512.Idx → Val .bf16) :
    (outM.access (Rect.unit (s := S1024x1024) off S32x512.size inb)).read Val ((chunk outM d h).view.rep w) = w := by
  subst hoff
  exact View.read_rep (chunk outM d h).view w

/-- A store of a 32 x 512 block `w` into that rectangle, holding chunk (d, h) whole: the chunk then holds `w`. -/
theorem wp_store_chunk_out [∀ e, Nonempty (Val e)] (d : Dev nD) (h : Fin 2) {off : Fin 2 → Nat} (hoff : off = ![32 * d.val, 512 * h.val])
    {inb : ∀ a, off a + S32x512.size a ≤ S1024x1024.size a}
    (w : S32x512.Idx → Val .bf16)
    {hx : (outM.access (Rect.unit (s := S1024x1024) off S32x512.size inb)).Stores Finset.univ}
    {hm : (Finset.univ : Finset (Rect.unit (s := S1024x1024) off S32x512.size inb).shape.Idx) = Finset.univ
      ∨ ∀ a, (Rect.unit (s := S1024x1024) off S32x512.size inb).stride a = 1}
    {k : PUnit → Prog (TpuEff nD τ sig Val Λ .tc) α}
    {f : Buf Val ((chunk outM d h).view.loc (c : Thread nD τ))} :
    ((chunk outM d h).view.loc (c : Thread nD τ) ↦[(chunk outM d h).view.set]{fullShare} f : sProp 𝕄)
      ⊢ iprop((((chunk outM d h).view.loc (c : Thread nD τ) ↦[(chunk outM d h).view.set]{fullShare} (chunk outM d h).view.rep w)
            -∗ wp frame (wpE' defs 𝒱 (c : Thread nD τ) bd Γ) E (k ⟨⟩) Q)
          -∗ wp frame (wpE' defs 𝒱 (c : Thread nD τ) bd Γ) E
              (.op (.store outM (Rect.unit (s := S1024x1024) off S32x512.size inb) w Finset.univ hx hm) k) Q) := by
  have e : ((chunk outM d h).view.loc (c : Thread nD τ) ↦[(chunk outM d h).view.set]{fullShare} (chunk outM d h).view.rep w : sProp 𝕄)
      = ((chunk outM d h).view.loc (c : Thread nD τ) ↦[(chunk outM d h).view.set]{fullShare}
          (outM.access (Rect.unit (s := S1024x1024) off S32x512.size inb)).write Val f w Finset.univ) := by
    refine pointsTo_congr fun i hi => ?_
    obtain ⟨y, -, rfl⟩ := Finset.mem_map.mp hi
    refine (View.rep_emb (chunk outM d h).view w y).trans ((cast_eq _ _).trans ?_)
    have hr := congrFun (read_chunk_out_write d h hoff inb f w) y
    exact hr.symm.trans ((View.read_apply _ _).trans (cast_eq _ _))
  rw [e]
  have hS : (outM.access (Rect.unit (s := S1024x1024) off S32x512.size inb)).setOn Finset.univ
      ⊆ ((chunk outM d h).view.set : Finset S1024x1024.Idx) :=
    (subset_of_eq (View.setOn_univ _)).trans (subset_of_eq (access_chunk_out_set d h hoff inb))
  have key := wp_store (defs := defs) (Γ := Γ) (Q := Q) 𝒱 (c : Thread nD τ) bd E (m := outM) (r := Rect.unit (s := S1024x1024) off S32x512.size inb)
    (w := w) (Mk := Finset.univ) (hx := hx) (hm := hm) (k := k) (S := (chunk outM d h).view.set) (f := f) hS
  exact key

end Steps

/-- info: 'Cert.Kernel.Regions.wp_store_slot' depends on axioms: [propext, Classical.choice, Quot.sound] -/
#guard_msgs in #print axioms wp_store_slot

/-- info: 'Cert.Kernel.Regions.wp_store_chunk_out' depends on axioms: [propext, Classical.choice, Quot.sound] -/
#guard_msgs in #print axioms wp_store_chunk_out

/-- info: 'Cert.Kernel.Regions.wp_store_chunk_acc' depends on axioms: [propext, Classical.choice, Quot.sound] -/
#guard_msgs in #print axioms wp_store_chunk_acc

/-- info: 'Cert.Kernel.Regions.wp_load_chunk_acc' depends on axioms: [propext, Classical.choice, Quot.sound] -/
#guard_msgs in #print axioms wp_load_chunk_acc

/-- info: 'Cert.Kernel.Regions.wp_load_chunk_out' depends on axioms: [propext, Classical.choice, Quot.sound] -/
#guard_msgs in #print axioms wp_load_chunk_out

/-- info: 'Cert.Kernel.Regions.read_access_chunk_acc_rep' depends on axioms: [propext, Classical.choice, Quot.sound] -/
#guard_msgs in #print axioms read_access_chunk_acc_rep

/-- info: 'Cert.Kernel.Regions.read_access_chunk_out_rep' depends on axioms: [propext, Classical.choice, Quot.sound] -/
#guard_msgs in #print axioms read_access_chunk_out_rep

/-- info: 'Cert.Kernel.Regions.wp_load_slot' depends on axioms: [propext, Classical.choice, Quot.sound] -/
#guard_msgs in #print axioms wp_load_slot

end Cert.Kernel.Regions

end
-- ==== Proof.Word.GatherShares.lean ====
/-
  The share of the own gather rows: the full share is the left half, kept by the device, beside the right half dealt
  out in 31 parts, part `k` to the gather copy of offset `k`.
-/
import proofs.«900438_g7700000000000439_dist_gemm_ar_m1024_k1024_n1024_f32_gelu_v7x_i32_1_alg».proof.Proof.Word.Protocol
import Idealize.ShloMosaic.Rules.PointsTo

noncomputable section

namespace Cert.Kernel.Regions

open Cert.Kernel Cert.Kernel.Gen Cert.Kernel.AllReduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The offsets `30 - j, …, 31`, in order. -/
def tailOffsets : (j : ℕ) → j ≤ 30 → List (Fin 32)
  | 0, _ => [31]
  | j + 1, h => ⟨30 - j, by omega⟩ :: tailOffsets j (by omega)

theorem tailOffsets_thirty : tailOffsets 30 le_rfl = ks := by decide +kernel

theorem shr_zero : shr 0 = fullShare.left := rfl
theorem shr_last : shr 31 = restShare 30 := rfl
theorem shr_mid (n : ℕ) (hn : n + 1 < 31) : shr ⟨n + 1, by omega⟩ = (restShare n).left := by
  unfold shr
  rw [if_neg (by intro e; have := congrArg Fin.val e; simp at this), if_neg (by intro e; have := congrArg Fin.val e; simp at this; omega)]
  rfl

section Shares
variable {nD : Nat} {τ : Topo} {sig : RefSig} {Ix : Type} [DecidableEq Ix]
variable {Val : EltTy → Type} {Name : Type} [DecidableEq Name]
variable {U : Type} [URA U] {Lvl : Type}
local notation "𝕄" => MT nD τ sig Ix Val Name U Lvl

theorem pointsTo_halves {ℓ : Loc nD τ sig} (I : Finset (Idx ℓ)) (q : PosShare TreeShare) (f : Buf Val ℓ) :
    (ℓ ↦[I]{q} f : sProp 𝕄) = iprop((ℓ ↦[I]{q.left} f) ∗ ℓ ↦[I]{q.right} f) :=
  have h : (ℓ ↦[I]{q} f : sProp 𝕄) ⊣⊢ iprop((ℓ ↦[I]{q.left} f) ∗ ℓ ↦[I]{q.right} f) :=
    pointsTo_share (PosShare.mem_left_op_right q)
  BI.equiv_iff.mp ⟨h.1, h.2⟩

/-- What is left after `30 - j` halvings is the parts of the offsets `30 - j + 1 … 31`. -/
theorem rest_eq_tail {ℓ : Loc nD τ sig} (I : Finset (Idx ℓ)) (f : Buf Val ℓ) :
    ∀ (j : ℕ) (hj : j ≤ 30), (ℓ ↦[I]{restShare (30 - j)} f : sProp 𝕄) = bigSepL (tailOffsets j hj) fun k => ℓ ↦[I]{shr k} f
  | 0, _ => by rw [shr_last.symm]; rfl
  | j + 1, hj => by
    have e : 30 - (j + 1) + 1 = 30 - j := by omega
    rw [pointsTo_halves I (restShare (30 - (j + 1))) f]
    show iprop((ℓ ↦[I]{(restShare (30 - (j + 1))).left} f) ∗ ℓ ↦[I]{restShare (30 - (j + 1) + 1)} f) = _
    rw [e, rest_eq_tail I f j (by omega)]
    show _ = bigSepL (⟨30 - j, by omega⟩ :: tailOffsets j (by omega)) fun k => ℓ ↦[I]{shr k} f
    rw [bigSepL_cons]
    have hs : shr ⟨30 - j, by omega⟩ = (restShare (30 - (j + 1))).left := by
      have := shr_mid (30 - (j + 1)) (by omega)
      rw [← this]
      exact congrArg shr (Fin.ext (by show 30 - j = 30 - (j + 1) + 1; omega))
    rw [hs]
    rfl

/-- The full share of a piece is the device's own half beside the 31 parts lent to the gather copies. -/
theorem pointsTo_full_eq_shares {ℓ : Loc nD τ sig} (I : Finset (Idx ℓ)) (f : Buf Val ℓ) :
    (ℓ ↦[I]{fullShare} f : sProp 𝕄) = iprop((ℓ ↦[I]{shr 0} f) ∗ bigSepL ks fun k => ℓ ↦[I]{shr k} f) := by
  rw [pointsTo_halves I fullShare f, ← tailOffsets_thirty, ← rest_eq_tail I f 30 le_rfl]
  rfl

end Shares

/-- info: 'Cert.Kernel.Regions.pointsTo_full_eq_shares' depends on axioms: [propext, Classical.choice, Quot.sound] -/
#guard_msgs in #print axioms pointsTo_full_eq_shares

end Cert.Kernel.Regions

end
-- ==== Proof.Word.LoadPieces.lean ====
/-
  Loads that read across several pieces of a scratch buffer held one by one: the half of the receive buffer read over
  its 32 slots, and the half of the gather buffer read over the 32 devices' row chunks.  The pieces, held at one share
  at contents of their own, are the union held at glued contents; the load reads through the union and the pieces come
  back as they were.
-/
import proofs.«900438_g7700000000000439_dist_gemm_ar_m1024_k1024_n1024_f32_gelu_v7x_i32_1_alg».proof.Proof.Word.RegionSplit
import proofs.«900438_g7700000000000439_dist_gemm_ar_m1024_k1024_n1024_f32_gelu_v7x_i32_1_alg».proof.Proof.Word.GatherShares
import Idealize.ShloMosaic.Lib.Exec.Geometry
import Idealize.ShloMosaic.Lib.Exec.Context
import Idealize.ShloMosaic.Lib.ValueLayout

noncomputable section

namespace Cert.Kernel.Regions

open Cert.Kernel Cert.Kernel.Gen Cert.Kernel.AllReduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix4 eq_ix2)

section Generic
variable {nD : Nat} {τ : Topo} {sig : RefSig} {Ix : Type} [DecidableEq Ix]
variable {Val : EltTy → Type} {Name : Type} [DecidableEq Name]
variable {U : Type} [URA U] {Lvl : Type} {Λ : Labels}
local notation "𝕄" => MT nD τ sig Ix Val Name U Lvl

/-- Contents that agree with `fs t` on piece `t` of a pairwise disjoint family. -/
theorem exists_glue {T : Type} [Fintype T] [DecidableEq T] {ℓ : Loc nD τ sig} (K : T → Finset (Idx ℓ))
    (hd : ∀ t t', t ≠ t' → Disjoint (K t) (K t')) (fs : T → Buf Val ℓ) (f₀ : Buf Val ℓ) :
    ∃ g : Buf Val ℓ, ∀ t, ∀ i ∈ K t, g i = fs t i := by
  classical
  refine ⟨fun i => if h : ∃ t, i ∈ K t then fs (Classical.choose h) i else f₀ i, fun t i hi => ?_⟩
  have h : ∃ t, i ∈ K t := ⟨t, hi⟩
  have ht : Classical.choose h = t := by
    by_contra hne
    exact Finset.disjoint_left.mp (hd _ _ hne) (Classical.choose_spec h) hi
  simp only [dif_pos h, ht]

/-- Pieces held at contents of their own are the union held at glued contents. -/
theorem bigSep_pieces_eq {T : Type} [Fintype T] [DecidableEq T] {ℓ : Loc nD τ sig} (K : T → Finset (Idx ℓ))
    (hd : ∀ t t', t ≠ t' → Disjoint (K t) (K t')) (q : PosShare TreeShare) (fs : T → Buf Val ℓ) (g : Buf Val ℓ)
    (hg : ∀ t, ∀ i ∈ K t, g i = fs t i) :
    (bigSep Finset.univ (fun t => ℓ ↦[K t]{q} fs t) : sProp 𝕄) = ℓ ↦[Finset.univ.biUnion K]{q} g := by
  rw [pointsTo_biUnion Finset.univ K (fun t _ t' _ h => hd t t' h)]
  exact bigSep_congr fun t _ => (pointsTo_congr fun i hi => hg t i hi).symm

section Step
variable [Preorder Lvl] {defs : Defs nD τ sig Val Λ} (𝒱 : Variants) (c : Thread nD τ)
  (bd : Option 𝒱.V) {Γ : PendingWaitsCtx sig Ix} (E : Set Name)
variable {s : Shape} {e : EltTy}

/-- A load whose elements lie in the union of pieces held (at one share) at contents of their own: it reads `X` if every
    gluing of the pieces' contents reads `X` there, and the pieces come back as they were. -/
theorem wp_load_pieces {α : Type} {Q : α → sProp (MT nD τ sig Ix Val Name U Lvl)} {T : Type} [Fintype T] [DecidableEq T] {cs : CoreSpace} {m : Memref sig c.2.kind cs s e} {r : LoadRect s}
    {hl : m.view.LoadsAt r} {k : (r.shape.Idx → Val e) → Prog (TpuEff nD τ sig Val Λ c.2) α}
    (K : T → Finset (Idx (m.view.loc c))) (hd : ∀ t t', t ≠ t' → Disjoint (K t) (K t'))
    (hS : m.view.setOn r.set ⊆ Finset.univ.biUnion K) (q : PosShare TreeShare) (fs : T → Buf Val (m.view.loc c))
    (f₀ : Buf Val (m.view.loc c)) (X : r.shape.Idx → Val e)
    (hval : ∀ g : Buf Val (m.view.loc c), (∀ t, ∀ i ∈ K t, g i = fs t i) → m.view.readAt Val r g = X) :
    (bigSep Finset.univ (fun t => m.view.loc c ↦[K t]{q} fs t) : sProp 𝕄)
      ⊢ iprop((bigSep Finset.univ (fun t => m.view.loc c ↦[K t]{q} fs t) -∗ wp frame (wpE' defs 𝒱 c bd Γ) E (k X) Q)
        -∗ wp frame (wpE' defs 𝒱 c bd Γ) E (.op (.load m r hl) k) Q) := by
  obtain ⟨g, hg⟩ := exists_glue K hd fs f₀
  rw [bigSep_pieces_eq K hd q fs g hg, ← hval g hg]
  exact wp_load (defs := defs) (Γ := Γ) (Q := Q) 𝒱 c bd E (m := m) (r := r) (hl := hl) (k := k) (S := Finset.univ.biUnion K) (q := q) (f := g) hS

/-- A rule for part of what is held extends to the whole: the rest is carried across. -/
theorem wand_frame {P F W G : sProp 𝕄} (h : P ⊢ iprop((P -∗ W) -∗ G)) : iprop(P ∗ F) ⊢ iprop(((P ∗ F) -∗ W) -∗ G) := by
  refine BI.wand_intro ?_
  refine BI.sep_assoc.trans ?_
  refine (BI.sep_mono_r (BI.wand_intro ?_)).trans (BI.wand_elim h)
  refine BI.sep_assoc.trans ?_
  refine BI.sep_comm.trans ?_
  refine BI.sep_assoc.trans ?_
  exact BI.wand_elim (BI.Entails.refl _)

end Step
end Generic

/-! ## Where a slot's and a chunk's elements sit -/

/-- Element `(r, j)` of slot `(h, s)` is element `(h, s, r, j)` of the receive buffer. -/
theorem slot_emb (h : Fin 2) (s : Fin 32) (r : Fin 32) (j : Fin 512) :
    ((slot h s).view.emb (ix2 r j) : S2x32x32x512.Idx) = ix4 h s r j := by
  show (Rect.unit (s := S2x32x32x512) ![h.val, s.val, 0, 0] S1x1x32x512.size (inb_slot h s)).emb
      (Shape.reshapeEquiv squeezes_S1x1x32x512_S32x512.numel_eq (ix2 r j)) = ix4 h s r j
  rw [ValueIdx.reshapeEquiv_ix2_11ab]
  funext a
  refine Fin.ext ?_
  match a with
  | ⟨0, _⟩ => show h.val + 1 * 0 = h.val; omega
  | ⟨1, _⟩ => show s.val + 1 * 0 = s.val; omega
  | ⟨2, _⟩ => show 0 + 1 * r.val = r.val; omega
  | ⟨3, _⟩ => show 0 + 1 * j.val = j.val; omega

/-- Element `(r, j)` of chunk `(d, h)` of the gather buffer is element `(32 d + r, 512 h + j)`. -/
theorem chunk_out_emb (d : Dev nD) (h : Fin 2) (r : Fin 32) (j : Fin 512) :
    ((chunk outM d h).view.emb (ix2 r j) : S1024x1024.Idx)
      = ix2 (⟨32 * d.val + r.val, by have := d.isLt; have := r.isLt; simp only [nD] at *; omega⟩ : Fin 1024)
          (⟨512 * h.val + j.val, by have := h.isLt; have := j.isLt; omega⟩ : Fin 1024) := by
  funext a
  refine Fin.ext ?_
  match a with
  | ⟨0, _⟩ => show 32 * d.val + 1 * r.val = 32 * d.val + r.val; omega
  | ⟨1, _⟩ => show 512 * h.val + 1 * j.val = 512 * h.val + j.val; omega

/-- The 32 places of a half, in order. -/
abbrev places : List (Fin 32) := [0, 1, 2, 3, 4, 5, 6, 7, 8, 9, 10, 11, 12, 13, 14, 15, 16, 17, 18, 19, 20, 21, 22, 23, 24, 25, 26, 27, 28, 29, 30, 31]
theorem places_univ : (Finset.univ : Finset (Fin 32)) = places.toFinset := by decide +kernel
theorem places_nodup : places.Nodup := by decide +kernel

section Loads
variable {Ix : Type} [DecidableEq Ix] {Val : EltTy → Type} [∀ e, Nonempty (Val e)] {Name : Type} [DecidableEq Name] {U : Type} [URA U]
variable {Lvl : Type} [Preorder Lvl] {Λ : Labels}
variable {defs : Defs nD τ sig Val Λ} (𝒱 : Variants) (c : Dev nD) (bd : Option 𝒱.V) {Γ : PendingWaitsCtx sig Ix} (E : Set Name)
variable {α : Type} {Q : α → sProp (MT nD τ sig Ix Val Name U Lvl)}
local notation "𝕄" => MT nD τ sig Ix Val Name U Lvl

/-- THE HALF LOAD: the 1 x 32 x 32 x 512 rectangle at (h, 0, 0, 0), the 32 slots of half `h` held (at one share) each at a
    block of its own: it reads, at `(0, s, r, j)`, slot `s`'s block at `(r, j)`; the slots come back as they were. -/
theorem wp_load_half (h : Fin 2) {off : Fin 4 → Nat} (hoff : off = ![h.val, 0, 0, 0])
    {inb : ∀ a, off a + S1x32x32x512.size a ≤ S2x32x32x512.size a}
    {hl : bufM.view.LoadsAt (Rect.unit (s := S2x32x32x512) off S1x32x32x512.size inb).toLoadRect}
    {k : ((Rect.unit (s := S2x32x32x512) off S1x32x32x512.size inb).toLoadRect.shape.Idx → Val .bf16) → Prog (TpuEff nD τ sig Val Λ .tc) α}
    (q : PosShare TreeShare) (vals : Fin 32 → S32x512.Idx → Val .bf16) :
    (bigSepL places (fun s => (slot h s).view.loc (c : Thread nD τ) ↦[(slot h s).view.set]{q} (slot h s).view.rep (vals s)) : sProp 𝕄)
      ⊢ iprop((bigSepL places (fun s => (slot h s).view.loc (c : Thread nD τ) ↦[(slot h s).view.set]{q} (slot h s).view.rep (vals s))
            -∗ wp frame (wpE' defs 𝒱 (c : Thread nD τ) bd Γ) E (k (fun j : S1x32x32x512.Idx => vals (j 1) (ix2 (j 2) (j 3)))) Q)
          -∗ wp frame (wpE' defs 𝒱 (c : Thread nD τ) bd Γ) E
              (.op (.load bufM (Rect.unit (s := S2x32x32x512) off S1x32x32x512.size inb).toLoadRect hl) k) Q) := by
  subst hoff
  rw [← bigSep_univ_eq_bigSepL places places_univ places_nodup]
  refine wp_load_pieces (defs := defs) (Γ := Γ) (Q := Q) 𝒱 (c : Thread nD τ) bd E (m := bufM)
    (r := (Rect.unit (s := S2x32x32x512) ![h.val, 0, 0, 0] S1x32x32x512.size inb).toLoadRect) (hl := hl) (k := k) (T := Fin 32)
    (fun s => ((slot h s).view.set : Finset S2x32x32x512.Idx))
    (fun s s' hne => slot_disjoint (h, s) (h, s') (fun e => hne (congrArg Prod.snd e))) ?_ q
    (fun s => (slot h s).view.rep (vals s)) ((slot h 0).view.rep (vals 0)) _ ?_
  · intro i hi
    obtain ⟨x, hx, rfl⟩ := Finset.mem_map.mp hi
    have hx' := (Rect.mem_set_unit (i := x)).mp hx
    have h0 : h.val ≤ (x 0).val ∧ (x 0).val < h.val + 1 := hx' 0
    refine Finset.mem_biUnion.mpr ⟨⟨(x 1).val, (x 1).isLt⟩, Finset.mem_univ _, ?_⟩
    exact (mem_slot_set h _ x).mpr ⟨by omega, rfl⟩
  · intro g hg
    funext j
    obtain ⟨a0, s, r, jj, rfl⟩ : ∃ (a0 : Fin 1) (s : Fin 32) (r : Fin 32) (jj : Fin 512), j = ix4 a0 s r jj :=
      ⟨j 0, j 1, j 2, j 3, ValueIdx.eq_ix4 j⟩
    have he : ((Rect.unit (s := S2x32x32x512) ![h.val, 0, 0, 0] S1x32x32x512.size inb).toLoadRect.idx (ix4 a0 s r jj) : S2x32x32x512.Idx)
        = (slot h s).view.emb (ix2 r jj) := by
      rw [slot_emb]
      funext a
      refine Fin.ext ?_
      have j0 : a0.val < 1 := a0.isLt
      match a with
      | ⟨0, _⟩ => show h.val + 1 * a0.val = h.val; omega
      | ⟨1, _⟩ => show 0 + 1 * s.val = s.val; omega
      | ⟨2, _⟩ => show 0 + 1 * r.val = r.val; omega
      | ⟨3, _⟩ => show 0 + 1 * jj.val = jj.val; omega
    have hgs := hg s ((slot h s).view.emb (ix2 r jj)) (View.emb_mem_set _ _)
    have hrep := View.rep_emb (slot h s).view (vals s) (ix2 r jj)
    show _root_.cast (congrArg Val bufM.view.elt_eq)
        (g ((Rect.unit (s := S2x32x32x512) ![h.val, 0, 0, 0] S1x32x32x512.size inb).toLoadRect.idx (ix4 a0 s r jj))) = vals s (ix2 r jj)
    rw [he, hgs, hrep]
    exact (cast_eq _ _).trans (cast_eq _ _)

theorem bwd_bwd : ∀ (c d : Dev nD), bwd c (bwd c d) = d := by decide +kernel
theorem bwd_inj : ∀ (c : Dev nD) (k k' : Fin 32), bwd c k = bwd c k' → k = k' := by decide +kernel
theorem univ_eq_insert_ks : (Finset.univ : Finset (Fin 32)) = insert 0 ks.toFinset := by decide +kernel
theorem zero_not_mem_ks : (0 : Fin 32) ∉ ks.toFinset := by decide +kernel
theorem ks_nodup : ks.Nodup := by decide +kernel

/-- Row chunk `h` of the device `k'` places before `c`, in `c`'s gather buffer, held at share `q` at the block `vals` names. -/
abbrev widenPiece (h : Fin 2) (vals : Dev nD → S32x512.Idx → Val .bf16) (q : PosShare TreeShare) (k' : Fin 32) : sProp 𝕄 :=
  (chunk outM (bwd c k') h).view.loc (c : Thread nD τ) ↦[(chunk outM (bwd c k') h).view.set]{q} (chunk outM (bwd c k') h).view.rep (vals (bwd c k'))

/-- The own rows, as the piece at offset 0. -/
abbrev ownPiece (h : Fin 2) (vals : Dev nD → S32x512.Idx → Val .bf16) (q : PosShare TreeShare) : sProp 𝕄 :=
  (chunk outM c h).view.loc (c : Thread nD τ) ↦[(chunk outM c h).view.set]{q} (chunk outM c h).view.rep (vals c)

theorem widenPiece_zero (h : Fin 2) (vals : Dev nD → S32x512.Idx → Val .bf16) (q : PosShare TreeShare) :
    widenPiece (Ix := Ix) (Name := Name) (U := U) (Lvl := Lvl) c h vals q 0 = ownPiece c h vals q := by
  unfold widenPiece ownPiece
  rw [bwd_zero c]

/-- The own rows at the left half beside the others at the full share: all 32 at the left half, beside the others' right halves. -/
theorem widen_split (h : Fin 2) (vals : Dev nD → S32x512.Idx → Val .bf16) :
    (iprop((ownPiece (Ix := Ix) (Name := Name) (U := U) (Lvl := Lvl) c h vals fullShare.left) ∗ bigSepL ks (widenPiece c h vals fullShare)) : sProp 𝕄)
      = iprop(bigSep Finset.univ (widenPiece c h vals fullShare.left) ∗ bigSep ks.toFinset (widenPiece c h vals fullShare.right)) := by
  have eB : bigSepL ks (widenPiece (Ix := Ix) (Name := Name) (U := U) (Lvl := Lvl) c h vals fullShare)
      = BI.sep (bigSep ks.toFinset (widenPiece c h vals fullShare.left)) (bigSep ks.toFinset (widenPiece c h vals fullShare.right)) := by
    rw [← bigSep_eq_bigSepL ks ks_nodup, ← bigSep_sep]
    exact bigSep_congr fun k' _ => (pointsTo_halves _ fullShare _).trans rfl
  have eU : bigSep Finset.univ (widenPiece (Ix := Ix) (Name := Name) (U := U) (Lvl := Lvl) c h vals fullShare.left)
      = BI.sep (ownPiece c h vals fullShare.left) (bigSep ks.toFinset (widenPiece c h vals fullShare.left)) := by
    rw [univ_eq_insert_ks, bigSep_insert zero_not_mem_ks, widenPiece_zero]
  show BI.sep (ownPiece c h vals fullShare.left) (bigSepL ks (widenPiece c h vals fullShare))
      = BI.sep (bigSep Finset.univ (widenPiece c h vals fullShare.left)) (bigSep ks.toFinset (widenPiece c h vals fullShare.right))
  rw [eB, eU]
  exact (Std.Associative.assoc (op := (BI.sep : sProp 𝕄 → _ → _)) _ _ _).symm

/-- THE WIDENING LOAD: the 1024 x 512 rectangle at (0, 512 h) of the gather buffer, the own rows held at the left half of the
    full share and the rows of the device `k` places before, `k = 1 … 31`, at the full share, each at a block of its own: it
    reads, at `(i, j)`, the block of device `i / 32` at `(i % 32, j)`; what was held comes back as it was. -/
theorem wp_load_widen (h : Fin 2) {off : Fin 2 → Nat} (hoff : off = ![0, 512 * h.val])
    {inb : ∀ a, off a + S1024x512.size a ≤ S1024x1024.size a}
    {hl : outM.view.LoadsAt (Rect.unit (s := S1024x1024) off S1024x512.size inb).toLoadRect}
    {k : ((Rect.unit (s := S1024x1024) off S1024x512.size inb).toLoadRect.shape.Idx → Val .bf16) → Prog (TpuEff nD τ sig Val Λ .tc) α}
    (vals : Dev nD → S32x512.Idx → Val .bf16) :
    (iprop(((chunk outM c h).view.loc (c : Thread nD τ) ↦[(chunk outM c h).view.set]{fullShare.left} (chunk outM c h).view.rep (vals c))
        ∗ bigSepL ks (fun k' => (chunk outM (bwd c k') h).view.loc (c : Thread nD τ) ↦[(chunk outM (bwd c k') h).view.set]{fullShare}
            (chunk outM (bwd c k') h).view.rep (vals (bwd c k')))) : sProp 𝕄)
      ⊢ iprop((iprop(((chunk outM c h).view.loc (c : Thread nD τ) ↦[(chunk outM c h).view.set]{fullShare.left} (chunk outM c h).view.rep (vals c))
            ∗ bigSepL ks (fun k' => (chunk outM (bwd c k') h).view.loc (c : Thread nD τ) ↦[(chunk outM (bwd c k') h).view.set]{fullShare}
                (chunk outM (bwd c k') h).view.rep (vals (bwd c k'))))
            -∗ wp frame (wpE' defs 𝒱 (c : Thread nD τ) bd Γ) E
                (k (fun i : S1024x512.Idx => vals ⟨(i 0).val / 32, by have h0 : (i 0).val < 1024 := (i 0).isLt; simp only [nD]; omega⟩
                  (ix2 ⟨(i 0).val % 32, Nat.mod_lt _ (by decide)⟩ (i 1)))) Q)
          -∗ wp frame (wpE' defs 𝒱 (c : Thread nD τ) bd Γ) E
              (.op (.load outM (Rect.unit (s := S1024x1024) off S1024x512.size inb).toLoadRect hl) k) Q) := by
  subst hoff
  show (iprop((ownPiece (Ix := Ix) (Name := Name) (U := U) (Lvl := Lvl) c h vals fullShare.left) ∗ bigSepL ks (widenPiece c h vals fullShare)) : sProp 𝕄)
      ⊢ iprop((iprop((ownPiece c h vals fullShare.left) ∗ bigSepL ks (widenPiece c h vals fullShare)) -∗ _) -∗ _)
  rw [widen_split c h vals]
  refine wand_frame ?_
  refine wp_load_pieces (defs := defs) (Γ := Γ) (Q := Q) 𝒱 (c : Thread nD τ) bd E (m := outM)
    (r := (Rect.unit (s := S1024x1024) ![0, 512 * h.val] S1024x512.size inb).toLoadRect) (hl := hl) (k := k) (T := Fin 32)
    (fun k' => ((chunk outM (bwd c k') h).view.set : Finset S1024x1024.Idx))
    (fun k' k'' hne => chunk_out_disjoint (h, bwd c k') (h, bwd c k'') (fun e => hne (bwd_inj c _ _ (congrArg Prod.snd e)))) ?_ fullShare.left
    (fun k' => (chunk outM (bwd c k') h).view.rep (vals (bwd c k'))) ((chunk outM c h).view.rep (vals c)) _ ?_
  · intro i hi
    obtain ⟨x, hx, rfl⟩ := Finset.mem_map.mp hi
    have hx' := (Rect.mem_set_unit (i := x)).mp hx
    have h1 : 512 * h.val ≤ (x 1).val ∧ (x 1).val < 512 * h.val + 512 := hx' 1
    have h0 : (x 0).val < 1024 := (x 0).isLt
    have hdlt : (x 0).val / 32 < nD := by simp only [nD]; omega
    have hb := bwd_bwd c ⟨(x 0).val / 32, hdlt⟩
    refine Finset.mem_biUnion.mpr ⟨bwd c ⟨(x 0).val / 32, hdlt⟩, Finset.mem_univ _, ?_⟩
    have hm : x ∈ ((chunk outM (⟨(x 0).val / 32, hdlt⟩ : Dev nD) h).view.set : Finset S1024x1024.Idx) :=
      (mem_chunk_out_set _ _ x).mpr ⟨rfl, by omega⟩
    rw [← hb] at hm
    exact hm
  · intro g hg
    funext j
    obtain ⟨a, b, rfl⟩ : ∃ (a : Fin 1024) (b : Fin 512), j = ix2 a b := ⟨j 0, j 1, eq_ix2 j⟩
    have hdlt : a.val / 32 < nD := by have := a.isLt; simp only [nD]; omega
    have key : ∀ (d : Dev nD) (k' : Fin 32), bwd c k' = d → d.val = a.val / 32 →
        g ((Rect.unit (s := S1024x1024) ![0, 512 * h.val] S1024x512.size inb).toLoadRect.idx (ix2 a b))
          = _root_.cast (congrArg Val (chunk outM d h).view.elt_eq.symm) (vals d (ix2 ⟨a.val % 32, Nat.mod_lt _ (by decide)⟩ b)) := by
      intro d k' hk' hd
      subst hk'
      have he : ((Rect.unit (s := S1024x1024) ![0, 512 * h.val] S1024x512.size inb).toLoadRect.idx (ix2 a b) : S1024x1024.Idx)
          = (chunk outM (bwd c k') h).view.emb (ix2 ⟨a.val % 32, Nat.mod_lt _ (by decide)⟩ b) := by
        rw [chunk_out_emb]
        funext a'
        refine Fin.ext ?_
        match a' with
        | ⟨0, _⟩ => show 0 + 1 * a.val = 32 * (bwd c k').val + a.val % 32; omega
        | ⟨1, _⟩ => show 512 * h.val + 1 * b.val = 512 * h.val + b.val; omega
      have hgs := hg k' ((chunk outM (bwd c k') h).view.emb (ix2 ⟨a.val % 32, Nat.mod_lt _ (by decide)⟩ b)) (View.emb_mem_set _ _)
      have hrep := View.rep_emb (chunk outM (bwd c k') h).view (vals (bwd c k')) (ix2 ⟨a.val % 32, Nat.mod_lt _ (by decide)⟩ b)
      rw [he, hgs, hrep]
    show _root_.cast (congrArg Val outM.view.elt_eq)
        (g ((Rect.unit (s := S1024x1024) ![0, 512 * h.val] S1024x512.size inb).toLoadRect.idx (ix2 a b)))
      = vals ⟨a.val / 32, _⟩ (ix2 ⟨a.val % 32, _⟩ b)
    rw [key ⟨a.val / 32, hdlt⟩ (bwd c ⟨a.val / 32, hdlt⟩) (bwd_bwd c _) rfl]
    exact (cast_eq _ _).trans (cast_eq _ _)

/-- The half load with the own slot named apart from the 31 received ones. -/
theorem wp_load_half' (h : Fin 2) {off : Fin 4 → Nat} (hoff : off = ![h.val, 0, 0, 0])
    {inb : ∀ a, off a + S1x32x32x512.size a ≤ S2x32x32x512.size a}
    {hl : bufM.view.LoadsAt (Rect.unit (s := S2x32x32x512) off S1x32x32x512.size inb).toLoadRect}
    {k : ((Rect.unit (s := S2x32x32x512) off S1x32x32x512.size inb).toLoadRect.shape.Idx → Val .bf16) → Prog (TpuEff nD τ sig Val Λ .tc) α}
    (q : PosShare TreeShare) (vals : Fin 32 → S32x512.Idx → Val .bf16) :
    (iprop(((slot h 0).view.loc (c : Thread nD τ) ↦[(slot h 0).view.set]{q} (slot h 0).view.rep (vals 0))
        ∗ bigSepL ks (fun s => (slot h s).view.loc (c : Thread nD τ) ↦[(slot h s).view.set]{q} (slot h s).view.rep (vals s))) : sProp 𝕄)
      ⊢ iprop((iprop(((slot h 0).view.loc (c : Thread nD τ) ↦[(slot h 0).view.set]{q} (slot h 0).view.rep (vals 0))
              ∗ bigSepL ks (fun s => (slot h s).view.loc (c : Thread nD τ) ↦[(slot h s).view.set]{q} (slot h s).view.rep (vals s)))
            -∗ wp frame (wpE' defs 𝒱 (c : Thread nD τ) bd Γ) E (k (fun j : S1x32x32x512.Idx => vals (j 1) (ix2 (j 2) (j 3)))) Q)
          -∗ wp frame (wpE' defs 𝒱 (c : Thread nD τ) bd Γ) E
              (.op (.load bufM (Rect.unit (s := S2x32x32x512) off S1x32x32x512.size inb).toLoadRect hl) k) Q) :=
  wp_load_half (defs := defs) (Γ := Γ) (Q := Q) 𝒱 c bd E h hoff (inb := inb) (hl := hl) (k := k) q vals

end Loads

/-- info: 'Cert.Kernel.Regions.wp_load_half' depends on axioms: [propext, Classical.choice, Quot.sound] -/
#guard_msgs in #print axioms wp_load_half

/-- info: 'Cert.Kernel.Regions.wp_load_half'' depends on axioms: [propext, Classical.choice, Quot.sound] -/
#guard_msgs in #print axioms wp_load_half'

/-- info: 'Cert.Kernel.Regions.wp_load_widen' depends on axioms: [propext, Classical.choice, Quot.sound] -/
#guard_msgs in #print axioms wp_load_widen

/-- info: 'Cert.Kernel.Regions.wp_load_pieces' depends on axioms: [propext, Classical.choice, Quot.sound] -/
#guard_msgs in #print axioms wp_load_pieces

end Cert.Kernel.Regions

end
-- ==== Proof.Word.PartialProductChunks.lean ====
/-
  The partial product after its two half stores, read chunk by chunk: chunk (d, h) holds, at (r, j), the half-`h`
  block stored, at row `32 d + r` and column `j`.
-/
import proofs.«900438_g7700000000000439_dist_gemm_ar_m1024_k1024_n1024_f32_gelu_v7x_i32_1_alg».proof.Proof.Word.RegionSplit
import Idealize.ShloMosaic.Lib.Writes
import Idealize.ShloMosaic.Lib.ValueIdx

noncomputable section

namespace Cert.Kernel.Regions

open Cert.Kernel Cert.Kernel.Gen Cert.Kernel.AllReduce
open Idealize.ShloMosaic
open Idealize.ShloMosaic.TcCoe
open Idealize.ShloMosaic.ValueIdx (ix2 eq_ix2)

variable {Val : EltTy → Type}

/-- The two half blocks side by side, as one function of the buffer's index. -/
def sideBySide (P0 P1 : S1024x512.Idx → Val .bf16) : S1024x1024.Idx → Val .bf16 := fun i =>
  if hlt : (i 1).val < 512 then P0 (ix2 (i 0) ⟨(i 1).val, hlt⟩)
  else P1 (ix2 (i 0) ⟨(i 1).val - 512, by have h1 : (i 1).val < 1024 := (i 1).isLt; omega⟩)

theorem half0_piece (P0 P1 : S1024x512.Idx → Val .bf16) (inb0 : ∀ a, (![0, 0] : Fin 2 → Nat) a + S1024x512.size a ≤ S1024x1024.size a)
    (x : (Rect.unit (s := S1024x1024) ![0, 0] S1024x512.size inb0).shape.Idx) :
    P0 x = sideBySide P0 P1 ((Rect.unit (s := S1024x1024) ![0, 0] S1024x512.size inb0).emb x) := by
  have hx1 : (x 1).val < 512 := (x 1).isLt
  have hlt : (((Rect.unit (s := S1024x1024) ![0, 0] S1024x512.size inb0).emb x) 1).val < 512 := by
    show 0 + 1 * (x 1).val < 512; omega
  unfold sideBySide
  rw [dif_pos hlt]
  refine congrArg P0 (funext fun a => Fin.ext ?_)
  match a with
  | ⟨0, _⟩ => show (x 0).val = 0 + 1 * (x 0).val; omega
  | ⟨1, _⟩ => show (x 1).val = 0 + 1 * (x 1).val; omega

theorem half1_piece (P0 P1 : S1024x512.Idx → Val .bf16) (inb1 : ∀ a, (![0, 512] : Fin 2 → Nat) a + S1024x512.size a ≤ S1024x1024.size a)
    (x : (Rect.unit (s := S1024x1024) ![0, 512] S1024x512.size inb1).shape.Idx) :
    P1 x = sideBySide P0 P1 ((Rect.unit (s := S1024x1024) ![0, 512] S1024x512.size inb1).emb x) := by
  have hx1 : (x 1).val < 512 := (x 1).isLt
  have hge : ¬ (((Rect.unit (s := S1024x1024) ![0, 512] S1024x512.size inb1).emb x) 1).val < 512 := by
    show ¬ (512 + 1 * (x 1).val < 512); omega
  unfold sideBySide
  rw [dif_neg hge]
  refine congrArg P1 (funext fun a => Fin.ext ?_)
  match a with
  | ⟨0, _⟩ => show (x 0).val = 0 + 1 * (x 0).val; omega
  | ⟨1, _⟩ => show (x 1).val = 512 + 1 * (x 1).val - 512; omega

/-- The two half blocks read at row chunk `d`, half `h`. -/
theorem sideBySide_chunk (P0 P1 : S1024x512.Idx → Val .bf16) (d : Dev nD) (h : Fin 2) (y : S32x512.Idx) :
    sideBySide P0 P1 ((Rect.unit (s := S1024x1024) ![32 * d.val, 512 * h.val] S32x512.size (inb_chunk d h)).emb y)
      = (if h = 0 then P0 else P1) (ix2 (rowOf d (y 0)) (y 1)) := by
  have hy1 : (y 1).val < 512 := (y 1).isLt
  unfold sideBySide
  match h with
  | 0 =>
    have hlt : (((Rect.unit (s := S1024x1024) ![32 * d.val, 512 * (0 : Fin 2).val] S32x512.size (inb_chunk d 0)).emb y) 1).val < 512 := by
      show 512 * 0 + 1 * (y 1).val < 512; omega
    rw [dif_pos hlt, if_pos rfl]
    refine congrArg P0 (funext fun a => Fin.ext ?_)
    match a with
    | ⟨0, _⟩ => show 32 * d.val + 1 * (y 0).val = 32 * d.val + (y 0).val; omega
    | ⟨1, _⟩ => show 512 * 0 + 1 * (y 1).val = (y 1).val; omega
  | 1 =>
    have hge : ¬ (((Rect.unit (s := S1024x1024) ![32 * d.val, 512 * (1 : Fin 2).val] S32x512.size (inb_chunk d 1)).emb y) 1).val < 512 := by
      show ¬ (512 * 1 + 1 * (y 1).val < 512); omega
    rw [dif_neg hge, if_neg (by decide)]
    refine congrArg P1 (funext fun a => Fin.ext ?_)
    match a with
    | ⟨0, _⟩ => show 32 * d.val + 1 * (y 0).val = 32 * d.val + (y 0).val; omega
    | ⟨1, _⟩ => show 512 * 1 + 1 * (y 1).val - 512 = (y 1).val; omega

/-- After the first half store, chunk (d, 0) of the partial product holds the rows of row chunk `d` of the block stored. -/
theorem read_chunk_acc_writes_first (f : accM.view.ty.Contents Val) (P0 : S1024x512.Idx → Val .bf16)
    (inb0 : ∀ a, (![0, 0] : Fin 2 → Nat) a + S1024x512.size a ≤ S1024x1024.size a) (d : Dev nD) :
    (chunk accM d 0).view.read Val (accM.view.writes Val f [⟨Rect.unit (s := S1024x1024) ![0, 0] S1024x512.size inb0, P0⟩])
      = fun y => P0 (ix2 (rowOf d (y 0)) (y 1)) := by
  funext y
  show accM.view.read Val (accM.view.writes Val f [⟨Rect.unit (s := S1024x1024) ![0, 0] S1024x512.size inb0, P0⟩])
      ((Rect.unit (s := S1024x1024) ![32 * d.val, 512 * (0 : Fin 2).val] S32x512.size (inb_chunk d 0)).emb y) = _
  rw [View.read_writes_apply_of_pieces accM.view f (sideBySide P0 P0) _ ?_ _ ?_]
  · exact (sideBySide_chunk P0 P0 d 0 y).trans (by rw [if_pos rfl])
  · intro p hp x
    obtain rfl : p = ⟨Rect.unit (s := S1024x1024) ![0, 0] S1024x512.size inb0, P0⟩ := List.mem_singleton.mp hp
    exact half0_piece P0 P0 inb0 x
  · refine ⟨⟨Rect.unit (s := S1024x1024) ![0, 0] S1024x512.size inb0, P0⟩, List.mem_singleton.mpr rfl, ?_⟩
    show _ ∈ (Rect.unit (s := S1024x1024) ![0, 0] S1024x512.size inb0).set
    rw [Rect.mem_set_unit]
    intro a
    have hy0 : (y 0).val < 32 := (y 0).isLt
    have hy1 : (y 1).val < 512 := (y 1).isLt
    have hd : d.val < 32 := d.isLt
    match a with
    | ⟨0, _⟩ => show 0 ≤ 32 * d.val + 1 * (y 0).val ∧ 32 * d.val + 1 * (y 0).val < 0 + 1024; omega
    | ⟨1, _⟩ => show 0 ≤ 512 * 0 + 1 * (y 1).val ∧ 512 * 0 + 1 * (y 1).val < 0 + 512; omega

/-- After both half stores, chunk (d, h) holds the rows of row chunk `d` of the half-`h` block. -/
theorem read_chunk_acc_writes_both (f : accM.view.ty.Contents Val) (P0 P1 : S1024x512.Idx → Val .bf16)
    (inb0 : ∀ a, (![0, 0] : Fin 2 → Nat) a + S1024x512.size a ≤ S1024x1024.size a)
    (inb1 : ∀ a, (![0, 512] : Fin 2 → Nat) a + S1024x512.size a ≤ S1024x1024.size a) (d : Dev nD) (h : Fin 2) :
    (chunk accM d h).view.read Val (accM.view.writes Val f
        [⟨Rect.unit (s := S1024x1024) ![0, 512] S1024x512.size inb1, P1⟩, ⟨Rect.unit (s := S1024x1024) ![0, 0] S1024x512.size inb0, P0⟩])
      = fun y => (if h = 0 then P0 else P1) (ix2 (rowOf d (y 0)) (y 1)) := by
  funext y
  show accM.view.read Val (accM.view.writes Val f
        [⟨Rect.unit (s := S1024x1024) ![0, 512] S1024x512.size inb1, P1⟩, ⟨Rect.unit (s := S1024x1024) ![0, 0] S1024x512.size inb0, P0⟩])
      ((Rect.unit (s := S1024x1024) ![32 * d.val, 512 * h.val] S32x512.size (inb_chunk d h)).emb y) = _
  rw [View.read_writes_apply_of_pieces accM.view f (sideBySide P0 P1) _ ?_ _ ?_]
  · exact sideBySide_chunk P0 P1 d h y
  · intro p hp x
    rcases List.mem_cons.mp hp with rfl | hp
    · exact half1_piece P0 P1 inb1 x
    · obtain rfl : p = ⟨Rect.unit (s := S1024x1024) ![0, 0] S1024x512.size inb0, P0⟩ := List.mem_singleton.mp hp
      exact half0_piece P0 P1 inb0 x
  · have hy0 : (y 0).val < 32 := (y 0).isLt
    have hy1 : (y 1).val < 512 := (y 1).isLt
    have hd : d.val < 32 := d.isLt
    match h with
    | 0 =>
      refine ⟨⟨Rect.unit (s := S1024x1024) ![0, 0] S1024x512.size inb0, P0⟩, List.mem_cons_of_mem _ (List.mem_singleton.mpr rfl), ?_⟩
      show _ ∈ (Rect.unit (s := S1024x1024) ![0, 0] S1024x512.size inb0).set
      rw [Rect.mem_set_unit]
      intro a
      match a with
      | ⟨0, _⟩ => show 0 ≤ 32 * d.val + 1 * (y 0).val ∧ 32 * d.val + 1 * (y 0).val < 0 + 1024; omega
      | ⟨1, _⟩ => show 0 ≤ 512 * 0 + 1 * (y 1).val ∧ 512 * 0 + 1 * (y 1).val < 0 + 512; omega
    | 1 =>
      refine ⟨⟨Rect.unit (s := S1024x1024) ![0, 512] S1024x512.size inb1, P1⟩, List.mem_cons_self, ?_⟩
      show _ ∈ (Rect.unit (s := S1024x1024) ![0, 512] S1024x512.size inb1).set
      rw [Rect.mem_set_unit]
      intro a
      match a with
      | ⟨0, _⟩ => show 0 ≤ 32 * d.val + 1 * (y 0).val ∧ 32 * d.val + 1 * (y 0).val < 0 + 1024; omega
      | ⟨1, _⟩ => show 512 ≤ 512 * 1 + 1 * (y 1).val ∧ 512 * 1 + 1 * (y 1).val < 512 + 512; omega

/-- info: 'Cert.Kernel.Regions.read_chunk_acc_writes_both' depends on axioms: [propext, Classical.choice, Quot.sound] -/
#guard_msgs in #print axioms read_chunk_acc_writes_both

/-- info: 'Cert.Kernel.Regions.read_chunk_acc_writes_first' depends on axioms: [propext, Classical.choice, Quot.sound] -/
#guard_msgs in #print axioms read_chunk_acc_writes_first

end Cert.Kernel.Regions

end
-- ==== Proof.Word.AccHalves.lean ====
/-
  The partial product while its left-half chunks are lent out: the second half store and the load before it, made over
  the 32 right-half chunks held one by one; and a chunk of the stored buffer named by what its device sends.
-/
import proofs.«900438_g7700000000000439_dist_gemm_ar_m1024_k1024_n1024_f32_gelu_v7x_i32_1_alg».proof.Proof.Word.LoadPieces
import proofs.«900438_g7700000000000439_dist_gemm_ar_m1024_k1024_n1024_f32_gelu_v7x_i32_1_alg».proof.Proof.Word.PartialProductChunks

noncomputable section

namespace Cert.Kernel.Regions

open Cert.Kernel Cert.Kernel.Gen Cert.Kernel.AllReduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix4 eq_ix2)

section Generic
variable {nD : Nat} {τ : Topo} {sig : RefSig} {Ix : Type} [DecidableEq Ix]
variable {Val : EltTy → Type} {Name : Type} [DecidableEq Name]
variable {U : Type} [URA U] {Lvl : Type} {Λ : Labels}
local notation "𝕄" => MT nD τ sig Ix Val Name U Lvl
variable [Preorder Lvl] {defs : Defs nD τ sig Val Λ} (𝒱 : Variants) (c : Thread nD τ)
  (bd : Option 𝒱.V) {Γ : PendingWaitsCtx sig Ix} (E : Set Name)
variable {s : Shape} {e : EltTy}

/-- A load over pieces held at one share whose value nothing reads: the continuation must run from every value. -/
theorem wp_load_pieces_any {α : Type} {Q : α → sProp (MT nD τ sig Ix Val Name U Lvl)} {T : Type} [Fintype T] [DecidableEq T]
    {cs : CoreSpace} {m : Memref sig c.2.kind cs s e} {r : LoadRect s}
    {hl : m.view.LoadsAt r} {k : (r.shape.Idx → Val e) → Prog (TpuEff nD τ sig Val Λ c.2) α}
    (K : T → Finset (Idx (m.view.loc c))) (hd : ∀ t t', t ≠ t' → Disjoint (K t) (K t'))
    (hS : m.view.setOn r.set ⊆ Finset.univ.biUnion K) (q : PosShare TreeShare) (fs : T → Buf Val (m.view.loc c))
    (f₀ : Buf Val (m.view.loc c)) :
    (bigSep Finset.univ (fun t => m.view.loc c ↦[K t]{q} fs t) : sProp 𝕄)
      ⊢ iprop((∀ v, bigSep Finset.univ (fun t => m.view.loc c ↦[K t]{q} fs t) -∗ wp frame (wpE' defs 𝒱 c bd Γ) E (k v) Q)
        -∗ wp frame (wpE' defs 𝒱 c bd Γ) E (.op (.load m r hl) k) Q) := by
  obtain ⟨g, hg⟩ := exists_glue K hd fs f₀
  rw [bigSep_pieces_eq K hd q fs g hg]
  exact (wp_load (defs := defs) (Γ := Γ) (Q := Q) 𝒱 c bd E (m := m) (r := r) (hl := hl) (k := k) (S := Finset.univ.biUnion K) (q := q) (f := g) hS).trans
    (wand_mono_left (forall_elim (m.view.readAt Val r g)))

/-- A store over pieces held whole (at the full share) at contents of their own: afterwards piece `t` holds `gs t`, if on
    piece `t` every gluing, written, agrees with `gs t`. -/
theorem wp_store_pieces {α : Type} {Q : α → sProp (MT nD τ sig Ix Val Name U Lvl)} {T : Type} [Fintype T] [DecidableEq T]
    {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α}
    (K : T → Finset (Idx ((m.access r).loc c))) (hd : ∀ t t', t ≠ t' → Disjoint (K t) (K t'))
    (hS : (m.access r).setOn Finset.univ ⊆ Finset.univ.biUnion K)
    (fs gs : T → Buf Val ((m.access r).loc c)) (f₀ : Buf Val ((m.access r).loc c))
    (hnew : ∀ g : Buf Val ((m.access r).loc c), (∀ t, ∀ i ∈ K t, g i = fs t i) →
      ∀ t, ∀ i ∈ K t, (m.access r).write Val g w Finset.univ i = gs t i) :
    (bigSep Finset.univ (fun t => (m.access r).loc c ↦[K t]{fullShare} fs t) : sProp 𝕄)
      ⊢ iprop((bigSep Finset.univ (fun t => (m.access r).loc c ↦[K t]{fullShare} gs t) -∗ wp frame (wpE' defs 𝒱 c bd Γ) E (k ⟨⟩) Q)
        -∗ wp frame (wpE' defs 𝒱 c bd Γ) E (.op (.store m r w Finset.univ hx hm) k) Q) := by
  obtain ⟨g, hg⟩ := exists_glue K hd fs f₀
  rw [bigSep_pieces_eq K hd fullShare fs g hg,
    bigSep_pieces_eq K hd fullShare gs ((m.access r).write Val g w Finset.univ) (hnew g hg)]
  exact wp_store (defs := defs) (Γ := Γ) (Q := Q) 𝒱 c bd E (m := m) (r := r) (w := w) (Mk := Finset.univ) (hx := hx) (hm := hm) (k := k)
    (S := Finset.univ.biUnion K) (f := g) hS

end Generic

/-! ## The right half of the partial product, chunk by chunk -/

/-- Element `(r, j)` of chunk `(d, h)` of the partial product is element `(32 d + r, 512 h + j)`. -/
theorem chunk_acc_emb (d : Dev nD) (h : Fin 2) (r : Fin 32) (j : Fin 512) :
    ((chunk accM d h).view.emb (ix2 r j) : S1024x1024.Idx)
      = ix2 (⟨32 * d.val + r.val, by have := d.isLt; have := r.isLt; simp only [nD] at *; omega⟩ : Fin 1024)
          (⟨512 * h.val + j.val, by have := h.isLt; have := j.isLt; omega⟩ : Fin 1024) := by
  funext a
  refine Fin.ext ?_
  match a with
  | ⟨0, _⟩ => show 32 * d.val + 1 * r.val = 32 * d.val + r.val; omega
  | ⟨1, _⟩ => show 512 * h.val + 1 * j.val = 512 * h.val + j.val; omega

section Half1
variable {Ix : Type} [DecidableEq Ix] {Val : EltTy → Type} [∀ e, Nonempty (Val e)] {Name : Type} [DecidableEq Name] {U : Type} [URA U]
variable {Lvl : Type} [Preorder Lvl] {Λ : Labels}
variable {defs : Defs nD τ sig Val Λ} (𝒱 : Variants) (c : Dev nD) (bd : Option 𝒱.V) {Γ : PendingWaitsCtx sig Ix} (E : Set Name)
variable {α : Type} {Q : α → sProp (MT nD τ sig Ix Val Name U Lvl)}
local notation "𝕄" => MT nD τ sig Ix Val Name U Lvl

theorem access_half1_subset {off : Fin 2 → Nat} (hoff : off = ![0, 512])
    (inb : ∀ a, off a + S1024x512.size a ≤ S1024x1024.size a) :
    ((accM.access (Rect.unit (s := S1024x1024) off S1024x512.size inb)).set : Finset S1024x1024.Idx)
      ⊆ Finset.univ.biUnion fun d : Fin 32 => ((chunk accM d 1).view.set : Finset S1024x1024.Idx) := by
  subst hoff
  intro i hi
  rw [View.set_slice_whole cc0_scratch0] at hi
  have hx' := (Rect.mem_set_unit (i := i)).mp hi
  have h1 : 512 ≤ (i 1).val ∧ (i 1).val < 512 + 512 := hx' 1
  have h0 : (i 0).val < 1024 := (i 0).isLt
  refine Finset.mem_biUnion.mpr ⟨⟨(i 0).val / 32, by omega⟩, Finset.mem_univ _, ?_⟩
  exact (mem_chunk_acc_set _ _ i).mpr ⟨rfl, by show (i 1).val / 512 = 1; omega⟩

/-- THE SECOND HALF STORE: the 1024 x 512 block `P1` stored at (0, 512), the 32 right-half chunks held whole each at contents
    of its own: afterwards chunk `(d, 1)` holds the rows of row chunk `d` of `P1`. -/
theorem wp_store_acc_half1 {off : Fin 2 → Nat} (hoff : off = ![0, 512])
    {inb : ∀ a, off a + S1024x512.size a ≤ S1024x1024.size a} (P1 : S1024x512.Idx → Val .bf16)
    {hx : (accM.access (Rect.unit (s := S1024x1024) off S1024x512.size inb)).Stores Finset.univ}
    {hm : (Finset.univ : Finset (Rect.unit (s := S1024x1024) off S1024x512.size inb).shape.Idx) = Finset.univ
      ∨ ∀ a, (Rect.unit (s := S1024x1024) off S1024x512.size inb).stride a = 1}
    {k : PUnit → Prog (TpuEff nD τ sig Val Λ .tc) α}
    (fs : Fin 32 → Buf Val ((c : Thread nD τ).loc cc0_scratch0)) :
    (bigSepL places (fun d => (chunk accM d 1).view.loc (c : Thread nD τ) ↦[(chunk accM d 1).view.set]{fullShare} fs d) : sProp 𝕄)
      ⊢ iprop((bigSepL places (fun d => (chunk accM d 1).view.loc (c : Thread nD τ) ↦[(chunk accM d 1).view.set]{fullShare}
              (chunk accM d 1).view.rep (fun y => P1 (ix2 (rowOf d (y 0)) (y 1))))
            -∗ wp frame (wpE' defs 𝒱 (c : Thread nD τ) bd Γ) E (k ⟨⟩) Q)
          -∗ wp frame (wpE' defs 𝒱 (c : Thread nD τ) bd Γ) E
              (.op (.store accM (Rect.unit (s := S1024x1024) off S1024x512.size inb) P1 Finset.univ hx hm) k) Q) := by
  rw [← bigSep_univ_eq_bigSepL places places_univ places_nodup, ← bigSep_univ_eq_bigSepL places places_univ places_nodup]
  refine wp_store_pieces (defs := defs) (Γ := Γ) (Q := Q) 𝒱 (c : Thread nD τ) bd E (m := accM)
    (r := Rect.unit (s := S1024x1024) off S1024x512.size inb) (w := P1) (hx := hx) (hm := hm) (k := k) (T := Fin 32)
    (fun d => ((chunk accM d 1).view.set : Finset S1024x1024.Idx))
    (fun d d' hne => chunk_acc_disjoint (1, d) (1, d') (fun e => hne (congrArg Prod.snd e)))
    ((subset_of_eq (View.setOn_univ _)).trans (access_half1_subset hoff inb)) fs
    (fun d => (chunk accM d 1).view.rep (fun y => P1 (ix2 (rowOf d (y 0)) (y 1)))) (fs 0) ?_
  subst hoff
  intro g _ d i hi
  obtain ⟨y, -, rfl⟩ := Finset.mem_map.mp hi
  obtain ⟨r, j, rfl⟩ : ∃ (r : Fin 32) (j : Fin 512), y = ix2 r j := ⟨y 0, y 1, eq_ix2 y⟩
  have he : ((chunk accM d 1).view.emb (ix2 r j) : S1024x1024.Idx)
      = (accM.access (Rect.unit (s := S1024x1024) ![0, 512] S1024x512.size inb)).emb (ix2 (rowOf d r) j) := by
    rw [chunk_acc_emb]
    funext a
    refine Fin.ext ?_
    match a with
    | ⟨0, _⟩ => show 32 * d.val + r.val = 0 + 1 * (32 * d.val + r.val); omega
    | ⟨1, _⟩ => show 512 * 1 + j.val = 512 + 1 * j.val; omega
  have hw := View.write_emb_of_mem (v := accM.access (Rect.unit (s := S1024x1024) ![0, 512] S1024x512.size inb)) (Val := Val) g P1
    (M := Finset.univ) (x := ix2 (rowOf d r) j) (Finset.mem_univ _)
  have hrep := View.rep_emb (chunk accM d 1).view (fun y => P1 (ix2 (rowOf d (y 0)) (y 1))) (ix2 r j)
  exact ((congrArg (View.write Val (accM.access (Rect.unit (s := S1024x1024) ![0, 512] S1024x512.size inb)) g P1 Finset.univ) he).trans hw).trans
    (((cast_eq _ _).trans (cast_eq _ _).symm).trans hrep.symm)

/-- The load before it (its value is not read): the continuation runs from every value. -/
theorem wp_load_acc_half1_any {off : Fin 2 → Nat} (hoff : off = ![0, 512])
    {inb : ∀ a, off a + S1024x512.size a ≤ S1024x1024.size a}
    {hl : accM.view.LoadsAt (Rect.unit (s := S1024x1024) off S1024x512.size inb).toLoadRect}
    {k : ((Rect.unit (s := S1024x1024) off S1024x512.size inb).toLoadRect.shape.Idx → Val .bf16) → Prog (TpuEff nD τ sig Val Λ .tc) α}
    (q : PosShare TreeShare) (fs : Fin 32 → Buf Val ((c : Thread nD τ).loc cc0_scratch0)) :
    (bigSepL places (fun d => (chunk accM d 1).view.loc (c : Thread nD τ) ↦[(chunk accM d 1).view.set]{q} fs d) : sProp 𝕄)
      ⊢ iprop((∀ v, bigSepL places (fun d => (chunk accM d 1).view.loc (c : Thread nD τ) ↦[(chunk accM d 1).view.set]{q} fs d)
            -∗ wp frame (wpE' defs 𝒱 (c : Thread nD τ) bd Γ) E (k v) Q)
          -∗ wp frame (wpE' defs 𝒱 (c : Thread nD τ) bd Γ) E
              (.op (.load accM (Rect.unit (s := S1024x1024) off S1024x512.size inb).toLoadRect hl) k) Q) := by
  rw [← bigSep_univ_eq_bigSepL places places_univ places_nodup]
  refine wp_load_pieces_any (defs := defs) (Γ := Γ) (Q := Q) 𝒱 (c : Thread nD τ) bd E (m := accM)
    (r := (Rect.unit (s := S1024x1024) off S1024x512.size inb).toLoadRect) (hl := hl) (k := k) (T := Fin 32)
    (fun d => ((chunk accM d 1).view.set : Finset S1024x1024.Idx))
    (fun d d' hne => chunk_acc_disjoint (1, d) (1, d') (fun e => hne (congrArg Prod.snd e))) ?_ q fs (fs 0)
  have := access_half1_subset hoff inb
  rwa [View.set_slice] at this

end Half1

/-! ## A chunk of the stored partial product is what its device sends -/

section Sent
variable {F : FTy → Type} [FloatOps F]
variable {Ix : Type} [DecidableEq Ix] {Name : Type} [DecidableEq Name] {U : Type} [URA U] {Lvl : Type}
local notation "𝕄" => MT nD τ sig Ix (Elt F) Name U Lvl

theorem sent_zero (m : (ℓ : Loc nD τ sig) → Buf (Elt F) ℓ) (c d : Dev nD) :
    sent m c d 0 = fun y => k0_pay3 (xIn m c) (wIn m c) (ix2 (rowOf d (y 0)) (y 1)) := by
  unfold sent part
  rw [if_pos rfl]

theorem sent_one (m : (ℓ : Loc nD τ sig) → Buf (Elt F) ℓ) (c d : Dev nD) :
    sent m c d 1 = fun y => k0_pay5 (k0_pay1 (xIn m c)) (k0_pay2 (wIn m c)) (ix2 (rowOf d (y 0)) (y 1)) := by
  unfold sent part
  rw [if_neg (by decide)]

/-- After the first half store, chunk `(d, 0)` held at the buffer's contents is held at what `c` sends `d`, half 0. -/
theorem acc_chunk_first_eq_sent (m : (ℓ : Loc nD τ sig) → Buf (Elt F) ℓ) (c d : Dev nD) (q : PosShare TreeShare)
    (f : Buf (Elt F) ((c : Thread nD τ).loc cc0_scratch0))
    (inb0 : ∀ a, (![0, 0] : Fin 2 → Nat) a + S1024x512.size a ≤ S1024x1024.size a) :
    ((chunk accM d 0).view.loc (c : Thread nD τ) ↦[(chunk accM d 0).view.set]{q}
        accM.view.writes (Elt F) f [⟨Rect.unit (s := S1024x1024) ![0, 0] S1024x512.size inb0, k0_pay3 (xIn m c) (wIn m c)⟩] : sProp 𝕄)
      = ((chunk accM d 0).view.loc (c : Thread nD τ) ↦[(chunk accM d 0).view.set]{q} (chunk accM d 0).view.rep (sent m c d 0)) := by
  refine pointsTo_congr fun i hi => ?_
  obtain ⟨y, -, rfl⟩ := Finset.mem_map.mp hi
  refine Eq.symm ((View.rep_emb (chunk accM d 0).view (sent m c d 0) y).trans ((cast_eq _ _).trans ?_))
  have hr := congrFun (read_chunk_acc_writes_first f (k0_pay3 (xIn m c) (wIn m c)) inb0 d) y
  rw [sent_zero]
  exact hr.symm.trans ((View.read_apply _ _).trans (cast_eq _ _))

/-- After both half stores, chunk `(d, h)` held at the buffer's contents is held at what `c` sends `d`, half `h`. -/
theorem acc_chunk_both_eq_sent (m : (ℓ : Loc nD τ sig) → Buf (Elt F) ℓ) (c d : Dev nD) (h : Fin 2) (q : PosShare TreeShare)
    (f : Buf (Elt F) ((c : Thread nD τ).loc cc0_scratch0))
    (inb0 : ∀ a, (![0, 0] : Fin 2 → Nat) a + S1024x512.size a ≤ S1024x1024.size a)
    (inb1 : ∀ a, (![0, 512] : Fin 2 → Nat) a + S1024x512.size a ≤ S1024x1024.size a) :
    ((chunk accM d h).view.loc (c : Thread nD τ) ↦[(chunk accM d h).view.set]{q}
        accM.view.writes (Elt F) f [⟨Rect.unit (s := S1024x1024) ![0, 512] S1024x512.size inb1, k0_pay5 (k0_pay1 (xIn m c)) (k0_pay2 (wIn m c))⟩,
          ⟨Rect.unit (s := S1024x1024) ![0, 0] S1024x512.size inb0, k0_pay3 (xIn m c) (wIn m c)⟩] : sProp 𝕄)
      = ((chunk accM d h).view.loc (c : Thread nD τ) ↦[(chunk accM d h).view.set]{q} (chunk accM d h).view.rep (sent m c d h)) := by
  refine pointsTo_congr fun i hi => ?_
  obtain ⟨y, -, rfl⟩ := Finset.mem_map.mp hi
  refine Eq.symm ((View.rep_emb (chunk accM d h).view (sent m c d h) y).trans ((cast_eq _ _).trans ?_))
  have hr := congrFun (read_chunk_acc_writes_both f (k0_pay3 (xIn m c) (wIn m c)) (k0_pay5 (k0_pay1 (xIn m c)) (k0_pay2 (wIn m c))) inb0 inb1 d h) y
  have hs : sent m c d h y = (if h = 0 then k0_pay3 (xIn m c) (wIn m c) else k0_pay5 (k0_pay1 (xIn m c)) (k0_pay2 (wIn m c))) (ix2 (rowOf d (y 0)) (y 1)) := rfl
  rw [hs]
  exact hr.symm.trans ((View.read_apply _ _).trans (cast_eq _ _))

end Sent

/-- info: 'Cert.Kernel.Regions.acc_chunk_both_eq_sent' depends on axioms: [propext, Classical.choice, Quot.sound] -/
#guard_msgs in #print axioms acc_chunk_both_eq_sent

/-- info: 'Cert.Kernel.Regions.acc_chunk_first_eq_sent' depends on axioms: [propext, Classical.choice, Quot.sound] -/
#guard_msgs in #print axioms acc_chunk_first_eq_sent

/-- info: 'Cert.Kernel.Regions.wp_store_acc_half1' depends on axioms: [propext, Classical.choice, Quot.sound] -/
#guard_msgs in #print axioms wp_store_acc_half1

/-- info: 'Cert.Kernel.Regions.wp_load_acc_half1_any' depends on axioms: [propext, Classical.choice, Quot.sound] -/
#guard_msgs in #print axioms wp_load_acc_half1_any

end Cert.Kernel.Regions

end
-- ==== Proof.Word.AccCut.lean ====
/-
  The partial product after its first half store, cut for the reduce copies: its 32 left-half chunks, numbered by the
  offset of the device they go to, each at what is sent there, beside its 32 right-half chunks.
-/
import proofs.«900438_g7700000000000439_dist_gemm_ar_m1024_k1024_n1024_f32_gelu_v7x_i32_1_alg».proof.Proof.Word.AccHalves

noncomputable section

namespace Cert.Kernel.Regions

open Cert.Kernel Cert.Kernel.Gen Cert.Kernel.AllReduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2)

theorem fwd_back : ∀ (c d : Dev nD), fwd c ⟨(d.val + 32 - c.val) % 32, Nat.mod_lt _ (by decide)⟩ = d := by decide +kernel

/-- Row chunk number of piece `(h, j)`: for the left half, the device `j` places on; for the right half, `j`. -/
def cutChunk (c : Dev nD) (p : Fin 2 × Fin 32) : Dev nD := if p.1 = 0 then fwd c p.2 else p.2

theorem cutChunk_inj (c : Dev nD) (p p' : Fin 2 × Fin 32) (h1 : p.1 = p'.1) (h2 : cutChunk c p = cutChunk c p') : p = p' := by
  obtain ⟨a, b⟩ := p
  obtain ⟨a', b'⟩ := p'
  simp only at h1
  subst h1
  unfold cutChunk at h2
  by_cases ha : a = 0
  · simp only [ha, if_true] at h2
    exact Prod.ext rfl (fwd_inj c _ _ h2)
  · simp only [ha, if_false] at h2
    exact Prod.ext rfl h2

section Cut
variable {Ix : Type} [DecidableEq Ix] {Val : EltTy → Type} {Name : Type} [DecidableEq Name] {U : Type} [URA U] {Lvl : Type}
local notation "𝕄" => MT nD τ sig Ix Val Name U Lvl

/-- The partial product held whole is its left-half chunks by offset beside its right-half chunks by number. -/
theorem acc_eq_halves (c : Dev nD) (q : PosShare TreeShare) (f : Buf Val ((c : Thread nD τ).loc cc0_scratch0)) :
    ((c : Thread nD τ).loc cc0_scratch0 ↦{q} f : sProp 𝕄)
      = iprop(bigSepL places (fun k => (chunk accM (fwd c k) 0).view.loc (c : Thread nD τ) ↦[(chunk accM (fwd c k) 0).view.set]{q} f)
          ∗ bigSepL places (fun d => (chunk accM d 1).view.loc (c : Thread nD τ) ↦[(chunk accM d 1).view.set]{q} f)) := by
  have e := pointsTo_univ_eq_bigSep (Ix := Ix) (Name := Name) (U := U) (Lvl := Lvl) (ℓ := (c : Thread nD τ).loc cc0_scratch0) (T := Fin 2 × Fin 32)
    (fun p => ((chunk accM (cutChunk c p) p.1).view.set : Finset S1024x1024.Idx))
    (fun p p' hne => chunk_acc_disjoint (p.1, cutChunk c p) (p'.1, cutChunk c p') (fun e => hne
      (cutChunk_inj c p p' (Prod.mk.inj e).1 (Prod.mk.inj e).2)))
    (fun i => by
      have h0 : (i 0).val < 1024 := (i 0).isLt
      have h1 : (i 1).val < 1024 := (i 1).isLt
      by_cases hh : (i 1).val < 512
      · have hd : (i 0).val / 32 < nD := by simp only [nD]; omega
        have hb := fwd_back c ⟨(i 0).val / 32, hd⟩
        have hm : i ∈ ((chunk accM (⟨(i 0).val / 32, hd⟩ : Dev nD) 0).view.set : Finset S1024x1024.Idx) :=
          (mem_chunk_acc_set _ _ i).mpr ⟨rfl, by show (i 1).val / 512 = 0; omega⟩
        rw [← hb] at hm
        exact ⟨((0 : Fin 2), ⟨(((i 0).val / 32) + 32 - c.val) % 32, Nat.mod_lt _ (by decide)⟩), hm⟩
      · have hd : (i 0).val / 32 < 32 := by omega
        have hm : i ∈ ((chunk accM (⟨(i 0).val / 32, hd⟩ : Dev nD) 1).view.set : Finset S1024x1024.Idx) :=
          (mem_chunk_acc_set _ _ i).mpr ⟨rfl, by show (i 1).val / 512 = 1; omega⟩
        exact ⟨((1 : Fin 2), ⟨(i 0).val / 32, hd⟩), hm⟩) q f
  rw [e, bigSep_univ_prod, bigSep_fin_two, ← bigSep_univ_eq_bigSepL places places_univ places_nodup,
    ← bigSep_univ_eq_bigSepL places places_univ places_nodup]
  rfl

end Cut

section Sent
variable {F : FTy → Type} [FloatOps F]
variable {Ix : Type} [DecidableEq Ix] {Name : Type} [DecidableEq Name] {U : Type} [URA U] {Lvl : Type}
local notation "𝕄" => MT nD τ sig Ix (Elt F) Name U Lvl

/-- After the first half store: the left-half chunks each at what `c` sends the device `k` places on, the right-half chunks at
    the buffer's contents. -/
theorem acc_cut_after_first (m : (ℓ : Loc nD τ sig) → Buf (Elt F) ℓ) (c : Dev nD) (q : PosShare TreeShare)
    (f : Buf (Elt F) ((c : Thread nD τ).loc cc0_scratch0))
    (inb0 : ∀ a, (![0, 0] : Fin 2 → Nat) a + S1024x512.size a ≤ S1024x1024.size a) :
    ((c : Thread nD τ).loc cc0_scratch0 ↦{q}
        accM.view.writes (Elt F) f [⟨Rect.unit (s := S1024x1024) ![0, 0] S1024x512.size inb0, k0_pay3 (xIn m c) (wIn m c)⟩] : sProp 𝕄)
      = iprop(bigSepL places (fun k => (chunk accM (fwd c k) 0).view.loc (c : Thread nD τ) ↦[(chunk accM (fwd c k) 0).view.set]{q}
              (chunk accM (fwd c k) 0).view.rep (sent m c (fwd c k) 0))
          ∗ bigSepL places (fun d => (chunk accM d 1).view.loc (c : Thread nD τ) ↦[(chunk accM d 1).view.set]{q}
              accM.view.writes (Elt F) f [⟨Rect.unit (s := S1024x1024) ![0, 0] S1024x512.size inb0, k0_pay3 (xIn m c) (wIn m c)⟩])) := by
  refine (acc_eq_halves (Ix := Ix) (Name := Name) (U := U) (Lvl := Lvl) c q _).trans ?_
  have e1 : (bigSepL places (fun k => (chunk accM (fwd c k) 0).view.loc (c : Thread nD τ) ↦[(chunk accM (fwd c k) 0).view.set]{q}
        accM.view.writes (Elt F) f [⟨Rect.unit (s := S1024x1024) ![0, 0] S1024x512.size inb0, k0_pay3 (xIn m c) (wIn m c)⟩]) : sProp 𝕄)
      = bigSepL places (fun k => (chunk accM (fwd c k) 0).view.loc (c : Thread nD τ) ↦[(chunk accM (fwd c k) 0).view.set]{q}
          (chunk accM (fwd c k) 0).view.rep (sent m c (fwd c k) 0)) := by
    rw [← bigSep_univ_eq_bigSepL places places_univ places_nodup, ← bigSep_univ_eq_bigSepL places places_univ places_nodup]
    exact bigSep_congr fun k _ => acc_chunk_first_eq_sent m c (fwd c k) q f inb0
  rw [e1]

end Sent

/-- info: 'Cert.Kernel.Regions.acc_cut_after_first' depends on axioms: [propext, Classical.choice, Quot.sound] -/
#guard_msgs in #print axioms acc_cut_after_first

end Cert.Kernel.Regions

end
-- ==== Proof.Word.BodyValues.lean ====
/-
  What the body's own loads read and what its own stores leave, named: the staged slabs read whole, the own row chunk
  of the partial product read after the first half store, and a slot after a block is stored into it.
-/
import proofs.«900438_g7700000000000439_dist_gemm_ar_m1024_k1024_n1024_f32_gelu_v7x_i32_1_alg».proof.Proof.Word.OwnPieces
import proofs.«900438_g7700000000000439_dist_gemm_ar_m1024_k1024_n1024_f32_gelu_v7x_i32_1_alg».proof.Proof.Word.AccHalves

noncomputable section

namespace Cert.Kernel.Regions

open Cert.Kernel Cert.Kernel.Gen Cert.Kernel.AllReduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2)

theorem zeros2 : (![0, 0] : Fin 2 → Nat) = fun _ => 0 := funext fun a => by
  match a with
  | ⟨0, _⟩ => rfl
  | ⟨1, _⟩ => rfl

section Values
variable {F : FTy → Type} [FloatOps F]

/-- The left slab read whole is the slab. -/
theorem readAt_stg0 (x : Vec F S1024x32 .f32) :
    View.readAt (Elt F) (Memref.whole cc0_stg0_0).view (Rect.unit (s := S1024x32) ![0, 0] S1024x32.size inb_S1024x32_S1024x32_0_0).toLoadRect x = x :=
  Memref.readAt_unit_zero (Elt F) cc0_stg0_0 zeros2 _ x

/-- The right slab read whole is the slab. -/
theorem readAt_stg1 (w : Vec F S32x1024 .f32) :
    View.readAt (Elt F) (Memref.whole cc0_stg1_0).view (Rect.unit (s := S32x1024) ![0, 0] S32x1024.size inb_S32x1024_S32x1024_0_0).toLoadRect w = w :=
  Memref.readAt_unit_zero (Elt F) cc0_stg1_0 zeros2 _ w

/-- After the first half store, the own row chunk of the partial product read back is what the device sends itself. -/
theorem readAt_acc_own_first (m : (ℓ : Loc nD τ sig) → Buf (Elt F) ℓ) (c : Dev nD) (f : accM.view.ty.Contents (Elt F))
    (inb0 : ∀ a, (![0, 0] : Fin 2 → Nat) a + S1024x512.size a ≤ S1024x1024.size a)
    {off : Fin 2 → Nat} (hoff : off = ![32 * c.val, 0]) (inb : ∀ a, off a + S32x512.size a ≤ S1024x1024.size a) :
    View.readAt (Elt F) accM.view (Rect.unit (s := S1024x1024) off S32x512.size inb).toLoadRect
        (accM.view.writes (Elt F) f [⟨Rect.unit (s := S1024x1024) ![0, 0] S1024x512.size inb0, k0_pay3 (xIn m c) (wIn m c)⟩])
      = sent m c c 0 := by
  subst hoff
  rw [sent_zero]
  exact read_chunk_acc_writes_first f (k0_pay3 (xIn m c) (wIn m c)) inb0 c

end Values

section Slots
variable {Ix : Type} [DecidableEq Ix] {Val : EltTy → Type} [∀ e, Nonempty (Val e)] {Name : Type} [DecidableEq Name] {U : Type} [URA U] {Lvl : Type}
local notation "𝕄" => MT nD τ sig Ix Val Name U Lvl

/-- A slot held at the buffer after a block was stored into it is the slot held at the block. -/
theorem slot_write_eq_rep (c : Dev nD) (h : Fin 2) (s : Fin 32) {off : Fin 4 → Nat} (hoff : off = ![h.val, s.val, 0, 0])
    (inb : ∀ a, off a + S1x1x32x512.size a ≤ S2x32x32x512.size a) (q : PosShare TreeShare)
    (f : Buf Val ((slot h s).view.loc (c : Thread nD τ))) (v : S32x512.Idx → Val .bf16) (hsc : S32x512.ShapeCasts S1x1x32x512) :
    ((slot h s).view.loc (c : Thread nD τ) ↦[(slot h s).view.set]{q}
        (bufM.access (Rect.unit (s := S2x32x32x512) off S1x1x32x512.size inb)).write Val f (shapeCast S1x1x32x512 v hsc) Finset.univ : sProp 𝕄)
      = ((slot h s).view.loc (c : Thread nD τ) ↦[(slot h s).view.set]{q} (slot h s).view.rep v) := by
  refine (pointsTo_congr fun i hi => ?_).symm
  obtain ⟨y, -, rfl⟩ := Finset.mem_map.mp hi
  refine (View.rep_emb (slot h s).view v y).trans ((cast_eq _ _).trans ?_)
  have hr := congrFun (read_slot_write h s hoff inb f v hsc) y
  exact hr.symm.trans ((View.read_apply _ _).trans (cast_eq _ _))

/-- A row chunk of the gather buffer held at the buffer after a block was stored into it is the chunk held at the block. -/
theorem chunk_out_write_eq_rep (c : Dev nD) (d : Dev nD) (h : Fin 2) {off : Fin 2 → Nat} (hoff : off = ![32 * d.val, 512 * h.val])
    (inb : ∀ a, off a + S32x512.size a ≤ S1024x1024.size a) (q : PosShare TreeShare)
    (f : Buf Val ((chunk outM d h).view.loc (c : Thread nD τ))) (w : S32x512.Idx → Val .bf16) :
    ((chunk outM d h).view.loc (c : Thread nD τ) ↦[(chunk outM d h).view.set]{q}
        (outM.access (Rect.unit (s := S1024x1024) off S32x512.size inb)).write Val f w Finset.univ : sProp 𝕄)
      = ((chunk outM d h).view.loc (c : Thread nD τ) ↦[(chunk outM d h).view.set]{q} (chunk outM d h).view.rep w) := by
  refine (pointsTo_congr fun i hi => ?_).symm
  obtain ⟨y, -, rfl⟩ := Finset.mem_map.mp hi
  refine (View.rep_emb (chunk outM d h).view w y).trans ((cast_eq _ _).trans ?_)
  have hr := congrFun (read_chunk_out_write d h hoff inb f w) y
  exact hr.symm.trans ((View.read_apply _ _).trans (cast_eq _ _))

/-- A row chunk of the partial product held at the buffer after a block was stored into it is the chunk held at the block. -/
theorem chunk_acc_write_eq_rep (c : Dev nD) (d : Dev nD) (h : Fin 2) {off : Fin 2 → Nat} (hoff : off = ![32 * d.val, 512 * h.val])
    (inb : ∀ a, off a + S32x512.size a ≤ S1024x1024.size a) (q : PosShare TreeShare)
    (f : Buf Val ((chunk accM d h).view.loc (c : Thread nD τ))) (w : S32x512.Idx → Val .bf16) :
    ((chunk accM d h).view.loc (c : Thread nD τ) ↦[(chunk accM d h).view.set]{q}
        (accM.access (Rect.unit (s := S1024x1024) off S32x512.size inb)).write Val f w Finset.univ : sProp 𝕄)
      = ((chunk accM d h).view.loc (c : Thread nD τ) ↦[(chunk accM d h).view.set]{q} (chunk accM d h).view.rep w) := by
  refine (pointsTo_congr fun i hi => ?_).symm
  obtain ⟨y, -, rfl⟩ := Finset.mem_map.mp hi
  refine (View.rep_emb (chunk accM d h).view w y).trans ((cast_eq _ _).trans ?_)
  have hr := congrFun (read_chunk_acc_write d h hoff inb f w) y
  exact hr.symm.trans ((View.read_apply _ _).trans (cast_eq _ _))

end Slots

section Pays
variable {F : FTy → Type} [FloatOps F]
variable {Ix : Type} [DecidableEq Ix] {Name : Type} [DecidableEq Name] {U : Type} [URA U] {Lvl : Type}
local notation "𝕄" => MT nD τ sig Ix (Elt F) Name U Lvl

/-- The own slot of half 0 after the body's store of a row chunk into it. -/
theorem slot_pay4_eq_rep (c : Dev nD) (h : Fin 2) (s : Fin 32) {off : Fin 4 → Nat} (hoff : off = ![h.val, s.val, 0, 0])
    (inb : ∀ a, off a + S1x1x32x512.size a ≤ S2x32x32x512.size a) (q : PosShare TreeShare)
    (f : Buf (Elt F) ((slot h s).view.loc (c : Thread nD τ))) (v : Vec F S32x512 .bf16) :
    ((slot h s).view.loc (c : Thread nD τ) ↦[(slot h s).view.set]{q}
        (bufM.access (Rect.unit (s := S2x32x32x512) off S1x1x32x512.size inb)).write (Elt F) f (k0_pay4 v) Finset.univ : sProp 𝕄)
      = ((slot h s).view.loc (c : Thread nD τ) ↦[(slot h s).view.set]{q} (slot h s).view.rep v) :=
  slot_write_eq_rep c h s hoff inb q f v shapeCasts_S32x512_S1x1x32x512

/-- The own slot of half 1 likewise. -/
theorem slot_pay6_eq_rep (c : Dev nD) (h : Fin 2) (s : Fin 32) {off : Fin 4 → Nat} (hoff : off = ![h.val, s.val, 0, 0])
    (inb : ∀ a, off a + S1x1x32x512.size a ≤ S2x32x32x512.size a) (q : PosShare TreeShare)
    (f : Buf (Elt F) ((slot h s).view.loc (c : Thread nD τ))) (v : Vec F S32x512 .bf16) :
    ((slot h s).view.loc (c : Thread nD τ) ↦[(slot h s).view.set]{q}
        (bufM.access (Rect.unit (s := S2x32x32x512) off S1x1x32x512.size inb)).write (Elt F) f (k0_pay6 v) Finset.univ : sProp 𝕄)
      = ((slot h s).view.loc (c : Thread nD τ) ↦[(slot h s).view.set]{q} (slot h s).view.rep v) :=
  slot_write_eq_rep c h s hoff inb q f v shapeCasts_S32x512_S1x1x32x512

end Pays

/-- info: 'Cert.Kernel.Regions.chunk_out_write_eq_rep' depends on axioms: [propext, Classical.choice, Quot.sound] -/
#guard_msgs in #print axioms chunk_out_write_eq_rep

/-- info: 'Cert.Kernel.Regions.chunk_acc_write_eq_rep' depends on axioms: [propext, Classical.choice, Quot.sound] -/
#guard_msgs in #print axioms chunk_acc_write_eq_rep

/-- info: 'Cert.Kernel.Regions.slot_write_eq_rep' depends on axioms: [propext, Classical.choice, Quot.sound] -/
#guard_msgs in #print axioms slot_write_eq_rep

/-- info: 'Cert.Kernel.Regions.readAt_acc_own_first' depends on axioms: [propext, Classical.choice, Quot.sound] -/
#guard_msgs in #print axioms readAt_acc_own_first

end Cert.Kernel.Regions

end
-- ==== Proof.Word.Chains.lean ====
/-
  A bundle over the 32 places, or over the 31 offsets, written out as the chain of its members.
-/
import proofs.«900438_g7700000000000439_dist_gemm_ar_m1024_k1024_n1024_f32_gelu_v7x_i32_1_alg».proof.Proof.Word.LoadPieces

noncomputable section

namespace Cert.Kernel.Regions

open Cert.Kernel Cert.Kernel.AllReduce
open Idealize.SL Idealize.SL.BI
open scoped Idealize.SL.BI
open Idealize.SL.BI.BIBase Idealize.SL.BI.Laws

variable {M : Type _} [Idealize.SL.RA.URA M]

theorem places_chain (Φ : Fin 32 → sProp M) : bigSepL places Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := rfl

theorem ks_chain (Φ : Fin 32 → sProp M) : bigSepL ks Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := rfl

end Cert.Kernel.Regions

end
-- ==== Proof.Word.BodyPart6.lean ====
/-
  The part of the body that ends the entry handshake: the last two signals, the first half of the partial product
  computed and stored, the own row chunk copied into the own slot, and the wait for the 31 peers' signals.  The
  partial product leaves cut for the reduce copies.
-/
import proofs.«900438_g7700000000000439_dist_gemm_ar_m1024_k1024_n1024_f32_gelu_v7x_i32_1_alg».proof.Proof.Word.BodyTables
import proofs.«900438_g7700000000000439_dist_gemm_ar_m1024_k1024_n1024_f32_gelu_v7x_i32_1_alg».proof.Proof.Word.BodyGlue
import proofs.«900438_g7700000000000439_dist_gemm_ar_m1024_k1024_n1024_f32_gelu_v7x_i32_1_alg».proof.Proof.Word.OwnPieces
import proofs.«900438_g7700000000000439_dist_gemm_ar_m1024_k1024_n1024_f32_gelu_v7x_i32_1_alg».proof.Proof.Word.AccCut
import proofs.«900438_g7700000000000439_dist_gemm_ar_m1024_k1024_n1024_f32_gelu_v7x_i32_1_alg».proof.Proof.Word.BodyValues
import proofs.«900438_g7700000000000439_dist_gemm_ar_m1024_k1024_n1024_f32_gelu_v7x_i32_1_alg».proof.Proof.Word.Chains
noncomputable section
namespace Cert.Kernel.AllReduce
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Regions
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma duties_bar amount_bar expect_bar pay_bar_payer_30 pay_bar_payer_31 in
set_option maxHeartbeats 8000000 in
theorem part6_spec (c : Dev nD) (v2 v120 c32_i32_116 : BitVec 32) (fo : Buf (Elt F) ((c : Thread nD τ).loc cc0_scratch1)) (fb : Buf (Elt F) ((c : Thread nD τ).loc cc0_scratch2))
    (f3 : Buf (Elt F) ((c : Thread nD τ).loc cc0_scratch0)) (O : CellTallies nD τ sig Unit)
    (hmwbar : (levAts L lv : sProp 𝕄) ⊢ MayWait (c : Thread nD τ) (.reg barS) () O) (W : Waits sig Unit)
    (Q : (Σ' (v130 : FVec F S1024x32 .bf16) (v133 : FVec F S32x1024 .bf16), BitVec 32) → sProp 𝕄) :
    iprop((cellInv ER (sched m) (K (barCell (fwd c 30))) (barCell (fwd c 30)) ∗ dutyTok ER (barCell (fwd c 30)) 0 (30 : Fin 32) ∗ reached ER (barCell (fwd c 30)) 0
        ∗ reached ER (dmaCell c rsR 0 2) 0 ∗ reached ER (dmaCell c rsR 1 2) 0 ∗ reached ER (dmaCell c agR 0 2) 0 ∗ reached ER (dmaCell c agR 1 2) 0)
      ∗ ((slot 0 2).view.loc (c : Thread nD τ) ↦[(slot 0 2).view.set]{fullShare} fb)
      ∗ ((slot 1 2).view.loc (c : Thread nD τ) ↦[(slot 1 2).view.set]{fullShare} fb)
      ∗ ((chunk outM (fwd c 30) 0).view.loc (c : Thread nD τ) ↦[(chunk outM (fwd c 30) 0).view.set]{fullShare} fo)
      ∗ ((chunk outM (fwd c 30) 1).view.loc (c : Thread nD τ) ↦[(chunk outM (fwd c 30) 1).view.set]{fullShare} fo)
      ∗ (cellInv ER (sched m) (K (barCell (fwd c 31))) (barCell (fwd c 31)) ∗ dutyTok ER (barCell (fwd c 31)) 0 (31 : Fin 32) ∗ reached ER (barCell (fwd c 31)) 0
        ∗ reached ER (dmaCell c rsR 0 1) 0 ∗ reached ER (dmaCell c rsR 1 1) 0 ∗ reached ER (dmaCell c agR 0 1) 0 ∗ reached ER (dmaCell c agR 1 1) 0)
      ∗ ((slot 0 1).view.loc (c : Thread nD τ) ↦[(slot 0 1).view.set]{fullShare} fb)
      ∗ ((slot 1 1).view.loc (c : Thread nD τ) ↦[(slot 1 1).view.set]{fullShare} fb)
      ∗ ((chunk outM (fwd c 31) 0).view.loc (c : Thread nD τ) ↦[(chunk outM (fwd c 31) 0).view.set]{fullShare} fo)
      ∗ ((chunk outM (fwd c 31) 1).view.loc (c : Thread nD τ) ↦[(chunk outM (fwd c 31) 1).view.set]{fullShare} fo)
      ∗ ((Memref.whole cc0_stg0_0).view.loc (c : Thread nD τ) ↦{fullShare} xIn m c)
      ∗ ((Memref.whole cc0_stg1_0).view.loc (c : Thread nD τ) ↦{fullShare} wIn m c)
      ∗ ((Memref.whole cc0_scratch0).view.loc (c : Thread nD τ) ↦{fullShare} f3)
      ∗ ((slot 0 0).view.loc (c : Thread nD τ) ↦[(slot 0 0).view.set]{fullShare} fb)
      ∗ barRes m K c
      ∗ levAts L lv
      ∗ owes (c : Thread nD τ) (O + tallyAt (barCell (fwd c 31)) () 1 + tallyAt (barCell (fwd c 30)) () 1) W
      ∗ (∀ v, (((Memref.whole cc0_stg0_0).view.loc (c : Thread nD τ) ↦{fullShare} xIn m c)
        ∗ ((Memref.whole cc0_stg1_0).view.loc (c : Thread nD τ) ↦{fullShare} wIn m c)
        ∗ ((chunk accM (fwd c 0) 0).view.loc (c : Thread nD τ) ↦[(chunk accM (fwd c 0) 0).view.set]{fullShare} (chunk accM (fwd c 0) 0).view.rep (sent m c (fwd c 0) 0))
        ∗ ((chunk accM (fwd c 1) 0).view.loc (c : Thread nD τ) ↦[(chunk accM (fwd c 1) 0).view.set]{fullShare} (chunk accM (fwd c 1) 0).view.rep (sent m c (fwd c 1) 0))
        ∗ ((chunk accM (fwd c 2) 0).view.loc (c : Thread nD τ) ↦[(chunk accM (fwd c 2) 0).view.set]{fullShare} (chunk accM (fwd c 2) 0).view.rep (sent m c (fwd c 2) 0))
        ∗ ((chunk accM (fwd c 3) 0).view.loc (c : Thread nD τ) ↦[(chunk accM (fwd c 3) 0).view.set]{fullShare} (chunk accM (fwd c 3) 0).view.rep (sent m c (fwd c 3) 0))
        ∗ ((chunk accM (fwd c 4) 0).view.loc (c : Thread nD τ) ↦[(chunk accM (fwd c 4) 0).view.set]{fullShare} (chunk accM (fwd c 4) 0).view.rep (sent m c (fwd c 4) 0))
        ∗ ((chunk accM (fwd c 5) 0).view.loc (c : Thread nD τ) ↦[(chunk accM (fwd c 5) 0).view.set]{fullShare} (chunk accM (fwd c 5) 0).view.rep (sent m c (fwd c 5) 0))
        ∗ ((chunk accM (fwd c 6) 0).view.loc (c : Thread nD τ) ↦[(chunk accM (fwd c 6) 0).view.set]{fullShare} (chunk accM (fwd c 6) 0).view.rep (sent m c (fwd c 6) 0))
        ∗ ((chunk accM (fwd c 7) 0).view.loc (c : Thread nD τ) ↦[(chunk accM (fwd c 7) 0).view.set]{fullShare} (chunk accM (fwd c 7) 0).view.rep (sent m c (fwd c 7) 0))
        ∗ ((chunk accM (fwd c 8) 0).view.loc (c : Thread nD τ) ↦[(chunk accM (fwd c 8) 0).view.set]{fullShare} (chunk accM (fwd c 8) 0).view.rep (sent m c (fwd c 8) 0))
        ∗ ((chunk accM (fwd c 9) 0).view.loc (c : Thread nD τ) ↦[(chunk accM (fwd c 9) 0).view.set]{fullShare} (chunk accM (fwd c 9) 0).view.rep (sent m c (fwd c 9) 0))
        ∗ ((chunk accM (fwd c 10) 0).view.loc (c : Thread nD τ) ↦[(chunk accM (fwd c 10) 0).view.set]{fullShare} (chunk accM (fwd c 10) 0).view.rep (sent m c (fwd c 10) 0))
        ∗ ((chunk accM (fwd c 11) 0).view.loc (c : Thread nD τ) ↦[(chunk accM (fwd c 11) 0).view.set]{fullShare} (chunk accM (fwd c 11) 0).view.rep (sent m c (fwd c 11) 0))
        ∗ ((chunk accM (fwd c 12) 0).view.loc (c : Thread nD τ) ↦[(chunk accM (fwd c 12) 0).view.set]{fullShare} (chunk accM (fwd c 12) 0).view.rep (sent m c (fwd c 12) 0))
        ∗ ((chunk accM (fwd c 13) 0).view.loc (c : Thread nD τ) ↦[(chunk accM (fwd c 13) 0).view.set]{fullShare} (chunk accM (fwd c 13) 0).view.rep (sent m c (fwd c 13) 0))
        ∗ ((chunk accM (fwd c 14) 0).view.loc (c : Thread nD τ) ↦[(chunk accM (fwd c 14) 0).view.set]{fullShare} (chunk accM (fwd c 14) 0).view.rep (sent m c (fwd c 14) 0))
        ∗ ((chunk accM (fwd c 15) 0).view.loc (c : Thread nD τ) ↦[(chunk accM (fwd c 15) 0).view.set]{fullShare} (chunk accM (fwd c 15) 0).view.rep (sent m c (fwd c 15) 0))
        ∗ ((chunk accM (fwd c 16) 0).view.loc (c : Thread nD τ) ↦[(chunk accM (fwd c 16) 0).view.set]{fullShare} (chunk accM (fwd c 16) 0).view.rep (sent m c (fwd c 16) 0))
        ∗ ((chunk accM (fwd c 17) 0).view.loc (c : Thread nD τ) ↦[(chunk accM (fwd c 17) 0).view.set]{fullShare} (chunk accM (fwd c 17) 0).view.rep (sent m c (fwd c 17) 0))
        ∗ ((chunk accM (fwd c 18) 0).view.loc (c : Thread nD τ) ↦[(chunk accM (fwd c 18) 0).view.set]{fullShare} (chunk accM (fwd c 18) 0).view.rep (sent m c (fwd c 18) 0))
        ∗ ((chunk accM (fwd c 19) 0).view.loc (c : Thread nD τ) ↦[(chunk accM (fwd c 19) 0).view.set]{fullShare} (chunk accM (fwd c 19) 0).view.rep (sent m c (fwd c 19) 0))
        ∗ ((chunk accM (fwd c 20) 0).view.loc (c : Thread nD τ) ↦[(chunk accM (fwd c 20) 0).view.set]{fullShare} (chunk accM (fwd c 20) 0).view.rep (sent m c (fwd c 20) 0))
        ∗ ((chunk accM (fwd c 21) 0).view.loc (c : Thread nD τ) ↦[(chunk accM (fwd c 21) 0).view.set]{fullShare} (chunk accM (fwd c 21) 0).view.rep (sent m c (fwd c 21) 0))
        ∗ ((chunk accM (fwd c 22) 0).view.loc (c : Thread nD τ) ↦[(chunk accM (fwd c 22) 0).view.set]{fullShare} (chunk accM (fwd c 22) 0).view.rep (sent m c (fwd c 22) 0))
        ∗ ((chunk accM (fwd c 23) 0).view.loc (c : Thread nD τ) ↦[(chunk accM (fwd c 23) 0).view.set]{fullShare} (chunk accM (fwd c 23) 0).view.rep (sent m c (fwd c 23) 0))
        ∗ ((chunk accM (fwd c 24) 0).view.loc (c : Thread nD τ) ↦[(chunk accM (fwd c 24) 0).view.set]{fullShare} (chunk accM (fwd c 24) 0).view.rep (sent m c (fwd c 24) 0))
        ∗ ((chunk accM (fwd c 25) 0).view.loc (c : Thread nD τ) ↦[(chunk accM (fwd c 25) 0).view.set]{fullShare} (chunk accM (fwd c 25) 0).view.rep (sent m c (fwd c 25) 0))
        ∗ ((chunk accM (fwd c 26) 0).view.loc (c : Thread nD τ) ↦[(chunk accM (fwd c 26) 0).view.set]{fullShare} (chunk accM (fwd c 26) 0).view.rep (sent m c (fwd c 26) 0))
        ∗ ((chunk accM (fwd c 27) 0).view.loc (c : Thread nD τ) ↦[(chunk accM (fwd c 27) 0).view.set]{fullShare} (chunk accM (fwd c 27) 0).view.rep (sent m c (fwd c 27) 0))
        ∗ ((chunk accM (fwd c 28) 0).view.loc (c : Thread nD τ) ↦[(chunk accM (fwd c 28) 0).view.set]{fullShare} (chunk accM (fwd c 28) 0).view.rep (sent m c (fwd c 28) 0))
        ∗ ((chunk accM (fwd c 29) 0).view.loc (c : Thread nD τ) ↦[(chunk accM (fwd c 29) 0).view.set]{fullShare} (chunk accM (fwd c 29) 0).view.rep (sent m c (fwd c 29) 0))
        ∗ ((chunk accM (fwd c 30) 0).view.loc (c : Thread nD τ) ↦[(chunk accM (fwd c 30) 0).view.set]{fullShare} (chunk accM (fwd c 30) 0).view.rep (sent m c (fwd c 30) 0))
        ∗ ((chunk accM (fwd c 31) 0).view.loc (c : Thread nD τ) ↦[(chunk accM (fwd c 31) 0).view.set]{fullShare} (chunk accM (fwd c 31) 0).view.rep (sent m c (fwd c 31) 0))
        ∗ (bigSepL places (fun d => (chunk accM d 1).view.loc (c : Thread nD τ) ↦[(chunk accM d 1).view.set]{fullShare} accM.view.writes (Elt F) f3 [⟨Rect.unit (s := S1024x1024) ![0, 0] S1024x512.size inb_S1024x1024_S1024x512_0_0, k0_pay3 (xIn m c) (wIn m c)⟩]))
        ∗ ((slot 0 0).view.loc (c : Thread nD τ) ↦[(slot 0 0).view.set]{fullShare} (slot 0 0).view.rep (sent m (bwd c 0) c 0))
        ∗ (bigSepL ks (fun k => barGot c k))
        ∗ owes (c : Thread nD τ) (O) (insert (SemLoc.reg barS, ()) (W))) -∗ Q ⟨k0_pay1 (xIn m c), k0_pay2 (wIn m c), v⟩))
      ⊢ wp frame (wpE (defs₀ (F := F)) 𝒱₀ c none) Set.univ (k0_part6 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v120 c32_i32_116) Q := by
  unfold barRes
  iintro ⟨⟨#IB30, TB30, #RB30, #Rr0_30, #Rr1_30, #Ra0_30, #Ra1_30⟩, S0_30, S1_30, Og0_30, Og1_30, ⟨#IB31, TB31, #RB31, #Rr0_31, #Rr1_31, #Ra0_31, #Ra1_31⟩, S0_31, S1_31, Og0_31, Og1_31, Hx, Hw, Hacc, Hs00, ⟨#IBar, ABar, CBar⟩, #Hlev, HO, Hk⟩
  sl_exec_parts
  sl_unfold_run_names
  rw [readAt_stg0 (xIn m c), readAt_stg1 (wIn m c)]
  rw [readAt_acc_own_first m c f3 inb_S1024x1024_S1024x512_0_0 (k0_off1_eq c) (k0_off1_inb c)]
  have hb : sent m c c 0 = sent m (bwd c 0) c 0 := by rw [bwd_zero]
  rw [hb]
  ihave Hs00 := (Entails.of_eq (slot_pay4_eq_rep (Ix := Unit) (Name := ℕ) (U := UU) (Lvl := ℕ) c (0 : Fin 2) (0 : Fin 32) (off := ![0, 0, 0, 0]) rfl
    inb_S2x32x32x512_S1x1x32x512_0_0_0_0 fullShare fb (sent m (bwd c 0) c 0))) $$ Hs00
  ihave Hcut := (Entails.of_eq (acc_cut_after_first (Ix := Unit) (Name := ℕ) (U := UU) (Lvl := ℕ) m c fullShare f3 inb_S1024x1024_S1024x512_0_0)) $$ Hacc
  icases Hcut with ⟨Hsrc, Hright⟩
  ihave Hsrc := (Entails.of_eq (places_chain _)) $$ Hsrc
  icases Hsrc with ⟨A0, A1, A2, A3, A4, A5, A6, A7, A8, A9, A10, A11, A12, A13, A14, A15, A16, A17, A18, A19, A20, A21, A22, A23, A24, A25, A26, A27, A28, A29, A30, A31⟩
  ihave Hbg := (Entails.of_eq ((bigSep_congr (fun d _ => payload_bar m c d)).trans (bar_payloads c))) $$ ABar_pay1
  sl_step
  iapply Hk
  isplitl [Hx]; · iexact Hx
  isplitl [Hw]; · iexact Hw
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  isplitl [A31]; · iexact A31
  isplitl [Hright]; · iexact Hright
  isplitl [Hs00]; · iexact Hs00
  isplitl [Hbg]; · iexact Hbg
  iexact HO

/-- info: 'Cert.Kernel.AllReduce.part6_spec' depends on axioms: [propext, Classical.choice, Quot.sound] -/
#guard_msgs in #print axioms part6_spec

end Cert.Kernel.AllReduce

end
-- ==== Proof.Word.Reindex.lean ====
/-
  A bundle over the 32 places read through the ring: place `k` standing for the device `k` places on.
-/
import proofs.«900438_g7700000000000439_dist_gemm_ar_m1024_k1024_n1024_f32_gelu_v7x_i32_1_alg».proof.Proof.Word.AccHalves

noncomputable section

namespace Cert.Kernel.Regions

open Cert.Kernel Cert.Kernel.Gen Cert.Kernel.AllReduce
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2)

section
variable {M : Type _} [URA M]

/-- The devices `k` places on, `k = 0 … 31`, are all the devices. -/
theorem places_reindex (c : Dev nD) (Φ : Fin 32 → sProp M) : bigSepL places (fun k => Φ (fwd c k)) = bigSepL places Φ := by
  rw [← bigSep_univ_eq_bigSepL places places_univ places_nodup, ← bigSep_univ_eq_bigSepL places places_univ places_nodup]
  have hmap : (Finset.univ : Finset (Fin 32)).map ⟨fwd c, fun a b h => fwd_inj c a b h⟩ = Finset.univ :=
    Finset.eq_univ_of_card _ (by rw [Finset.card_map]; rfl)
  conv_rhs => rw [← hmap, bigSep_map]
  rfl

end

section Sent
variable {F : FTy → Type} [FloatOps F]
variable {Ix : Type} [DecidableEq Ix] {Name : Type} [DecidableEq Name] {U : Type} [URA U] {Lvl : Type}
local notation "𝕄" => MT nD τ sig Ix (Elt F) Name U Lvl

/-- The right-half chunks after the second half store, numbered by the offset of the device they go to, each at what is sent there. -/
theorem acc_right_eq_sent (m : (ℓ : Loc nD τ sig) → Buf (Elt F) ℓ) (c : Dev nD) (q : PosShare TreeShare) :
    (bigSepL places (fun d => (chunk accM d 1).view.loc (c : Thread nD τ) ↦[(chunk accM d 1).view.set]{q}
        (chunk accM d 1).view.rep (fun y => k0_pay5 (k0_pay1 (xIn m c)) (k0_pay2 (wIn m c)) (ix2 (rowOf d (y 0)) (y 1)))) : sProp 𝕄)
      = bigSepL places (fun k => (chunk accM (fwd c k) 1).view.loc (c : Thread nD τ) ↦[(chunk accM (fwd c k) 1).view.set]{q}
          (chunk accM (fwd c k) 1).view.rep (sent m c (fwd c k) 1)) := by
  rw [places_reindex c (fun d => ((chunk accM d 1).view.loc (c : Thread nD τ) ↦[(chunk accM d 1).view.set]{q}
    (chunk accM d 1).view.rep (sent m c d 1) : sProp 𝕄))]
  rw [← bigSep_univ_eq_bigSepL places places_univ places_nodup, ← bigSep_univ_eq_bigSepL places places_univ places_nodup]
  exact bigSep_congr fun d _ => by rw [sent_one]

end Sent

/-- info: 'Cert.Kernel.Regions.acc_right_eq_sent' depends on axioms: [propext, Classical.choice, Quot.sound] -/
#guard_msgs in #print axioms acc_right_eq_sent

end Cert.Kernel.Regions

end
-- ==== Proof.Word.BodyPart20.lean ====
/-
  The part of the body that ends the first half's sends and computes the second half: the last two reduce copies of
  half 0 leave, the second half of the partial product is stored over the 32 right-half chunks, and those leave numbered
  by the device they go to, each at what is sent there.
-/
import proofs.«900438_g7700000000000439_dist_gemm_ar_m1024_k1024_n1024_f32_gelu_v7x_i32_1_alg».proof.Proof.Word.BodyTables
import proofs.«900438_g7700000000000439_dist_gemm_ar_m1024_k1024_n1024_f32_gelu_v7x_i32_1_alg».proof.Proof.Word.BodyGlue
import proofs.«900438_g7700000000000439_dist_gemm_ar_m1024_k1024_n1024_f32_gelu_v7x_i32_1_alg».proof.Proof.Word.OwnPieces
import proofs.«900438_g7700000000000439_dist_gemm_ar_m1024_k1024_n1024_f32_gelu_v7x_i32_1_alg».proof.Proof.Word.AccHalves
import proofs.«900438_g7700000000000439_dist_gemm_ar_m1024_k1024_n1024_f32_gelu_v7x_i32_1_alg».proof.Proof.Word.Reindex
import proofs.«900438_g7700000000000439_dist_gemm_ar_m1024_k1024_n1024_f32_gelu_v7x_i32_1_alg».proof.Proof.Word.Chains
noncomputable section
namespace Cert.Kernel.AllReduce
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Regions
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma in
set_option maxHeartbeats 8000000 in
theorem part20_spec (c : Dev nD) (v2 v495 : BitVec 32) (f3 : Buf (Elt F) ((c : Thread nD τ).loc cc0_scratch0)) (O : CellTallies nD τ sig Unit) (W : Waits sig Unit) (Q : PUnit → sProp 𝕄) :
    iprop(copyRes m K rsS rsR c 0 30
      ∗ ((chunk accM (fwd c 30) 0).view.loc (c : Thread nD τ) ↦[(chunk accM (fwd c 30) 0).view.set]{fullShare} (chunk accM (fwd c 30) 0).view.rep (sent m c (fwd c 30) 0))
      ∗ (∃ f, ((slot 0 30).view.loc (fwd c 30 : Thread nD τ) ↦[(slot 0 30).view.set]{fullShare} f))
      ∗ copyRes m K rsS rsR c 0 31
      ∗ ((chunk accM (fwd c 31) 0).view.loc (c : Thread nD τ) ↦[(chunk accM (fwd c 31) 0).view.set]{fullShare} (chunk accM (fwd c 31) 0).view.rep (sent m c (fwd c 31) 0))
      ∗ (∃ f, ((slot 0 31).view.loc (fwd c 31 : Thread nD τ) ↦[(slot 0 31).view.set]{fullShare} f))
      ∗ (bigSepL places (fun d => (chunk accM d 1).view.loc (c : Thread nD τ) ↦[(chunk accM d 1).view.set]{fullShare} accM.view.writes (Elt F) f3 [⟨Rect.unit (s := S1024x1024) ![0, 0] S1024x512.size inb_S1024x1024_S1024x512_0_0, k0_pay3 (xIn m c) (wIn m c)⟩]))
      ∗ owes (c : Thread nD τ) (O + tallyAt (dmaCell (fwd c 31) rsR 0 31) () Nc + tallyAt (dmaCell (fwd c 30) rsR 0 30) () Nc) W
      ∗ (∀ r, (recvRes m K rsS c 0 30
        ∗ recvRes m K rsS c 0 31
        ∗ ((chunk accM (fwd c 0) 1).view.loc (c : Thread nD τ) ↦[(chunk accM (fwd c 0) 1).view.set]{fullShare} (chunk accM (fwd c 0) 1).view.rep (sent m c (fwd c 0) 1))
        ∗ ((chunk accM (fwd c 1) 1).view.loc (c : Thread nD τ) ↦[(chunk accM (fwd c 1) 1).view.set]{fullShare} (chunk accM (fwd c 1) 1).view.rep (sent m c (fwd c 1) 1))
        ∗ ((chunk accM (fwd c 2) 1).view.loc (c : Thread nD τ) ↦[(chunk accM (fwd c 2) 1).view.set]{fullShare} (chunk accM (fwd c 2) 1).view.rep (sent m c (fwd c 2) 1))
        ∗ ((chunk accM (fwd c 3) 1).view.loc (c : Thread nD τ) ↦[(chunk accM (fwd c 3) 1).view.set]{fullShare} (chunk accM (fwd c 3) 1).view.rep (sent m c (fwd c 3) 1))
        ∗ ((chunk accM (fwd c 4) 1).view.loc (c : Thread nD τ) ↦[(chunk accM (fwd c 4) 1).view.set]{fullShare} (chunk accM (fwd c 4) 1).view.rep (sent m c (fwd c 4) 1))
        ∗ ((chunk accM (fwd c 5) 1).view.loc (c : Thread nD τ) ↦[(chunk accM (fwd c 5) 1).view.set]{fullShare} (chunk accM (fwd c 5) 1).view.rep (sent m c (fwd c 5) 1))
        ∗ ((chunk accM (fwd c 6) 1).view.loc (c : Thread nD τ) ↦[(chunk accM (fwd c 6) 1).view.set]{fullShare} (chunk accM (fwd c 6) 1).view.rep (sent m c (fwd c 6) 1))
        ∗ ((chunk accM (fwd c 7) 1).view.loc (c : Thread nD τ) ↦[(chunk accM (fwd c 7) 1).view.set]{fullShare} (chunk accM (fwd c 7) 1).view.rep (sent m c (fwd c 7) 1))
        ∗ ((chunk accM (fwd c 8) 1).view.loc (c : Thread nD τ) ↦[(chunk accM (fwd c 8) 1).view.set]{fullShare} (chunk accM (fwd c 8) 1).view.rep (sent m c (fwd c 8) 1))
        ∗ ((chunk accM (fwd c 9) 1).view.loc (c : Thread nD τ) ↦[(chunk accM (fwd c 9) 1).view.set]{fullShare} (chunk accM (fwd c 9) 1).view.rep (sent m c (fwd c 9) 1))
        ∗ ((chunk accM (fwd c 10) 1).view.loc (c : Thread nD τ) ↦[(chunk accM (fwd c 10) 1).view.set]{fullShare} (chunk accM (fwd c 10) 1).view.rep (sent m c (fwd c 10) 1))
        ∗ ((chunk accM (fwd c 11) 1).view.loc (c : Thread nD τ) ↦[(chunk accM (fwd c 11) 1).view.set]{fullShare} (chunk accM (fwd c 11) 1).view.rep (sent m c (fwd c 11) 1))
        ∗ ((chunk accM (fwd c 12) 1).view.loc (c : Thread nD τ) ↦[(chunk accM (fwd c 12) 1).view.set]{fullShare} (chunk accM (fwd c 12) 1).view.rep (sent m c (fwd c 12) 1))
        ∗ ((chunk accM (fwd c 13) 1).view.loc (c : Thread nD τ) ↦[(chunk accM (fwd c 13) 1).view.set]{fullShare} (chunk accM (fwd c 13) 1).view.rep (sent m c (fwd c 13) 1))
        ∗ ((chunk accM (fwd c 14) 1).view.loc (c : Thread nD τ) ↦[(chunk accM (fwd c 14) 1).view.set]{fullShare} (chunk accM (fwd c 14) 1).view.rep (sent m c (fwd c 14) 1))
        ∗ ((chunk accM (fwd c 15) 1).view.loc (c : Thread nD τ) ↦[(chunk accM (fwd c 15) 1).view.set]{fullShare} (chunk accM (fwd c 15) 1).view.rep (sent m c (fwd c 15) 1))
        ∗ ((chunk accM (fwd c 16) 1).view.loc (c : Thread nD τ) ↦[(chunk accM (fwd c 16) 1).view.set]{fullShare} (chunk accM (fwd c 16) 1).view.rep (sent m c (fwd c 16) 1))
        ∗ ((chunk accM (fwd c 17) 1).view.loc (c : Thread nD τ) ↦[(chunk accM (fwd c 17) 1).view.set]{fullShare} (chunk accM (fwd c 17) 1).view.rep (sent m c (fwd c 17) 1))
        ∗ ((chunk accM (fwd c 18) 1).view.loc (c : Thread nD τ) ↦[(chunk accM (fwd c 18) 1).view.set]{fullShare} (chunk accM (fwd c 18) 1).view.rep (sent m c (fwd c 18) 1))
        ∗ ((chunk accM (fwd c 19) 1).view.loc (c : Thread nD τ) ↦[(chunk accM (fwd c 19) 1).view.set]{fullShare} (chunk accM (fwd c 19) 1).view.rep (sent m c (fwd c 19) 1))
        ∗ ((chunk accM (fwd c 20) 1).view.loc (c : Thread nD τ) ↦[(chunk accM (fwd c 20) 1).view.set]{fullShare} (chunk accM (fwd c 20) 1).view.rep (sent m c (fwd c 20) 1))
        ∗ ((chunk accM (fwd c 21) 1).view.loc (c : Thread nD τ) ↦[(chunk accM (fwd c 21) 1).view.set]{fullShare} (chunk accM (fwd c 21) 1).view.rep (sent m c (fwd c 21) 1))
        ∗ ((chunk accM (fwd c 22) 1).view.loc (c : Thread nD τ) ↦[(chunk accM (fwd c 22) 1).view.set]{fullShare} (chunk accM (fwd c 22) 1).view.rep (sent m c (fwd c 22) 1))
        ∗ ((chunk accM (fwd c 23) 1).view.loc (c : Thread nD τ) ↦[(chunk accM (fwd c 23) 1).view.set]{fullShare} (chunk accM (fwd c 23) 1).view.rep (sent m c (fwd c 23) 1))
        ∗ ((chunk accM (fwd c 24) 1).view.loc (c : Thread nD τ) ↦[(chunk accM (fwd c 24) 1).view.set]{fullShare} (chunk accM (fwd c 24) 1).view.rep (sent m c (fwd c 24) 1))
        ∗ ((chunk accM (fwd c 25) 1).view.loc (c : Thread nD τ) ↦[(chunk accM (fwd c 25) 1).view.set]{fullShare} (chunk accM (fwd c 25) 1).view.rep (sent m c (fwd c 25) 1))
        ∗ ((chunk accM (fwd c 26) 1).view.loc (c : Thread nD τ) ↦[(chunk accM (fwd c 26) 1).view.set]{fullShare} (chunk accM (fwd c 26) 1).view.rep (sent m c (fwd c 26) 1))
        ∗ ((chunk accM (fwd c 27) 1).view.loc (c : Thread nD τ) ↦[(chunk accM (fwd c 27) 1).view.set]{fullShare} (chunk accM (fwd c 27) 1).view.rep (sent m c (fwd c 27) 1))
        ∗ ((chunk accM (fwd c 28) 1).view.loc (c : Thread nD τ) ↦[(chunk accM (fwd c 28) 1).view.set]{fullShare} (chunk accM (fwd c 28) 1).view.rep (sent m c (fwd c 28) 1))
        ∗ ((chunk accM (fwd c 29) 1).view.loc (c : Thread nD τ) ↦[(chunk accM (fwd c 29) 1).view.set]{fullShare} (chunk accM (fwd c 29) 1).view.rep (sent m c (fwd c 29) 1))
        ∗ ((chunk accM (fwd c 30) 1).view.loc (c : Thread nD τ) ↦[(chunk accM (fwd c 30) 1).view.set]{fullShare} (chunk accM (fwd c 30) 1).view.rep (sent m c (fwd c 30) 1))
        ∗ ((chunk accM (fwd c 31) 1).view.loc (c : Thread nD τ) ↦[(chunk accM (fwd c 31) 1).view.set]{fullShare} (chunk accM (fwd c 31) 1).view.rep (sent m c (fwd c 31) 1))
        ∗ owes (c : Thread nD τ) (O) (W)) -∗ Q r))
      ⊢ wp frame (wpE (defs₀ (F := F)) 𝒱₀ c none) Set.univ (k0_part20 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (k0_pay1 (xIn m c)) (k0_pay2 (wIn m c)) v495) Q := by
  unfold copyRes recvRes
  iintro ⟨⟨#IS30, TS30, #RS30, AS30, #ID30, TD30, #RD30⟩, Src30, ⟨%g30, Dst30⟩, ⟨#IS31, TS31, #RS31, AS31, #ID31, TD31, #RD31⟩, Src31, ⟨%g31, Dst31⟩, Hright, HO, Hk⟩
  sl_exec_parts (disch := simp only [dev61_eq, dev62_eq])
  iapply (wp_send_rs m K c (0 : Fin 2) (30 : Fin 32) (by decide) g30 W (O + tallyAt (dmaCell (fwd c 31) rsR 0 31) () Nc + tallyAt (dmaCell (fwd c 30) rsR 0 30) () Nc) (O + tallyAt (dmaCell (fwd c 31) rsR 0 31) () Nc) rfl) $$ [Src30 Dst30 HO TS30 TD30]
  · isplitr; · iexact IS30
    isplitr; · iexact ID30
    isplitl [Src30]; · iexact Src30
    isplitl [Dst30]; · iexact Dst30
    isplitl [HO]; · iexact HO
    isplitl [TS30]; · iexact TS30
    isplitr; · iexact RS30
    isplitl [TD30]; · iexact TD30
    iexact RD30
  iintro ⟨C30, HO⟩
  sl_exec_parts (disch := simp only [dev61_eq, dev62_eq])
  iapply (wp_send_rs m K c (0 : Fin 2) (31 : Fin 32) (by decide) g31 W (O + tallyAt (dmaCell (fwd c 31) rsR 0 31) () Nc) O rfl) $$ [Src31 Dst31 HO TS31 TD31]
  · isplitr; · iexact IS31
    isplitr; · iexact ID31
    isplitl [Src31]; · iexact Src31
    isplitl [Dst31]; · iexact Dst31
    isplitl [HO]; · iexact HO
    isplitl [TS31]; · iexact TS31
    isplitr; · iexact RS31
    isplitl [TD31]; · iexact TD31
    iexact RD31
  iintro ⟨C31, HO⟩
  iapply (wp_load_acc_half1_any (defs := defs₀ (F := F)) (Γ := .empty) (Q := Q) (Ix := Unit) (Name := ℕ) (U := UU) (Lvl := ℕ) 𝒱₀ c none Set.univ (off := ![0, 512]) rfl
    (inb := inb_S1024x1024_S1024x512_0_512) (hl := View.loadsAt_vmem h_S1024x512) fullShare (fun _ => (accM.view.writes (Elt F) f3 [⟨Rect.unit (s := S1024x1024) ![0, 0] S1024x512.size inb_S1024x1024_S1024x512_0_0, k0_pay3 (xIn m c) (wIn m c)⟩]))) $$ [Hright]
  · iexact Hright
  iintro %v521 Hright
  iapply (wp_store_acc_half1 (defs := defs₀ (F := F)) (Γ := .empty) (Q := Q) (Ix := Unit) (Name := ℕ) (U := UU) (Lvl := ℕ) 𝒱₀ c none Set.univ (off := ![0, 512]) rfl
    (inb := inb_S1024x1024_S1024x512_0_512) (k0_pay5 (k0_pay1 (xIn m c)) (k0_pay2 (wIn m c))) (fun _ => (accM.view.writes (Elt F) f3 [⟨Rect.unit (s := S1024x1024) ![0, 0] S1024x512.size inb_S1024x1024_S1024x512_0_0, k0_pay3 (xIn m c) (wIn m c)⟩]))) $$ [Hright]
  · iexact Hright
  iintro Hright
  ihave Hright := (Entails.of_eq (acc_right_eq_sent (Ix := Unit) (Name := ℕ) (U := UU) (Lvl := ℕ) m c fullShare)) $$ Hright
  ihave Hright := (Entails.of_eq (places_chain _)) $$ Hright
  icases Hright with ⟨B0, B1, B2, B3, B4, B5, B6, B7, B8, B9, B10, B11, B12, B13, B14, B15, B16, B17, B18, B19, B20, B21, B22, B23, B24, B25, B26, B27, B28, B29, B30, B31⟩
  have eret : ((Prog.ret PUnit.unit : Prog (TpuEff nD τ sig (Elt F) Λ₀ .tc) PUnit).bind fun __r => (Pure.pure PUnit.unit : Prog (TpuEff nD τ sig (Elt F) Λ₀ .tc) PUnit))
      = (Pure.pure PUnit.unit : Prog (TpuEff nD τ sig (Elt F) Λ₀ .tc) PUnit) := rfl
  rw [eret]
  sl_step
  iapply Hk
  isplitl [AS30 C30]
  · isplitr; · iexact IS30
    isplitl [AS30]; · iexact AS30
    iexact C30
  isplitl [AS31 C31]
  · isplitr; · iexact IS31
    isplitl [AS31]; · iexact AS31
    iexact C31
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  isplitl [B20]; · iexact B20
  isplitl [B21]; · iexact B21
  isplitl [B22]; · iexact B22
  isplitl [B23]; · iexact B23
  isplitl [B24]; · iexact B24
  isplitl [B25]; · iexact B25
  isplitl [B26]; · iexact B26
  isplitl [B27]; · iexact B27
  isplitl [B28]; · iexact B28
  isplitl [B29]; · iexact B29
  isplitl [B30]; · iexact B30
  isplitl [B31]; · iexact B31
  iexact HO

/-- info: 'Cert.Kernel.AllReduce.part20_spec' depends on axioms: [propext, Classical.choice, Quot.sound] -/
#guard_msgs in #print axioms part20_spec

end Cert.Kernel.AllReduce

end
-- ==== Proof.Word.BodyPart21.lean ====
/-
  The own slot of half 1 and the first copy of half 1.
-/
import proofs.«900438_g7700000000000439_dist_gemm_ar_m1024_k1024_n1024_f32_gelu_v7x_i32_1_alg».proof.Proof.Word.BodyTables
import proofs.«900438_g7700000000000439_dist_gemm_ar_m1024_k1024_n1024_f32_gelu_v7x_i32_1_alg».proof.Proof.Word.OwnPieces
import proofs.«900438_g7700000000000439_dist_gemm_ar_m1024_k1024_n1024_f32_gelu_v7x_i32_1_alg».proof.Proof.Word.BodyValues
noncomputable section
namespace Cert.Kernel.AllReduce
open Cert.Kernel Cert.Kernel.Gen Cert.Kernel.Regions
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma in
set_option maxHeartbeats 4000000 in
/-- The own rows of half 1 go into slot 0 of half 1, then the first copy of half 1 leaves. -/
theorem part21_spec (c : Dev nD) (v2 : BitVec 32) (fb : Buf (Elt F) ((c : Thread nD τ).loc cc0_scratch2)) (O : CellTallies nD τ sig Unit) (W : Waits sig Unit) (Q : PUnit → sProp 𝕄) :
    iprop(((chunk accM (fwd c 0) 1).view.loc (c : Thread nD τ) ↦[(chunk accM (fwd c 0) 1).view.set]{fullShare} (chunk accM (fwd c 0) 1).view.rep (sent m c (fwd c 0) 1))
      ∗ ((slot 1 0).view.loc (c : Thread nD τ) ↦[(slot 1 0).view.set]{fullShare} fb)
      ∗ copyRes m K rsS rsR c 1 1
      ∗ ((chunk accM (fwd c 1) 1).view.loc (c : Thread nD τ) ↦[(chunk accM (fwd c 1) 1).view.set]{fullShare} (chunk accM (fwd c 1) 1).view.rep (sent m c (fwd c 1) 1))
      ∗ (∃ f, ((slot 1 1).view.loc (fwd c 1 : Thread nD τ) ↦[(slot 1 1).view.set]{fullShare} f))
      ∗ owes (c : Thread nD τ) (O + tallyAt (dmaCell (fwd c 1) rsR 1 1) () Nc) W
      ∗ (∀ r, (((chunk accM (fwd c 0) 1).view.loc (c : Thread nD τ) ↦[(chunk accM (fwd c 0) 1).view.set]{fullShare} (chunk accM (fwd c 0) 1).view.rep (sent m c (fwd c 0) 1))
        ∗ ((slot 1 0).view.loc (c : Thread nD τ) ↦[(slot 1 0).view.set]{fullShare} (slot 1 0).view.rep (sent m (bwd c 0) c 1))
        ∗ recvRes m K rsS c 1 1
        ∗ owes (c : Thread nD τ) O W) -∗ Q r))
      ⊢ wp frame (wpE (defs₀ (F := F)) 𝒱₀ c none) Set.univ (k0_part21 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  rw [fwd_zero c, bwd_zero c]
  unfold copyRes
  iintro ⟨Hacc, Hslot, ⟨#IS, TS, #RS, AS, #ID, TD, #RD⟩, Src, ⟨%g, Dst⟩, HO, Hk⟩
  sl_exec_parts (disch := simp only [dev63_eq])
  sl_unfold_run_names
  have hV : View.readAt (Elt F) (Memref.whole cc0_scratch0 : Memref sig .tc .vmem S1024x1024 .bf16).view (Rect.unit (s := S1024x1024) (k0_off3 c) S32x512.size (k0_off3_inb c)).toLoadRect ((chunk accM c 1).view.rep (sent m c c 1)) = sent m c c 1 :=
    read_access_chunk_acc_rep c 1 (k0_off3_eq c) (k0_off3_inb c) (sent m c c 1)
  have e : (((slot 1 0).view.loc (c : Thread nD τ) ↦[(slot 1 0).view.set]{fullShare} View.write (Elt F) ((Memref.whole cc0_scratch2 : Memref sig .tc .vmem S2x32x32x512 .bf16).access (Rect.unit (s := S2x32x32x512) ![1, 0, 0, 0] S1x1x32x512.size inb_S2x32x32x512_S1x1x32x512_1_0_0_0)) fb (shapeCast S1x1x32x512 (View.readAt (Elt F) (Memref.whole cc0_scratch0 : Memref sig .tc .vmem S1024x1024 .bf16).view (Rect.unit (s := S1024x1024) (k0_off3 c) S32x512.size (k0_off3_inb c)).toLoadRect ((chunk accM c 1).view.rep (sent m c c 1))) shapeCasts_S32x512_S1x1x32x512) Finset.univ) : sProp 𝕄) = ((slot 1 0).view.loc (c : Thread nD τ) ↦[(slot 1 0).view.set]{fullShare} (slot 1 0).view.rep (sent m c c 1)) := by
    rw [hV]
    exact slot_write_eq_rep (Ix := Unit) (Name := ℕ) (U := UU) (Lvl := ℕ) c (1 : Fin 2) (0 : Fin 32) (off := ![1, 0, 0, 0]) rfl inb_S2x32x32x512_S1x1x32x512_1_0_0_0 fullShare fb (sent m c c 1) shapeCasts_S32x512_S1x1x32x512
  ihave Hslot := (Entails.of_eq e) $$ Hslot
  iapply (wp_send_rs m K c 1 1 (by decide) g W (O + tallyAt (dmaCell (fwd c 1) rsR 1 1) () Nc) O rfl) $$ [TS TD Src Dst HO]
  · isplitr; · iexact IS
    isplitr; · iexact ID
    isplitl [Src]; · iexact Src
    isplitl [Dst]; · iexact Dst
    isplitl [HO]; · iexact HO
    isplitl [TS]; · iexact TS
    isplitr; · iexact RS
    isplitl [TD]; · iexact TD
    iexact RD
  iintro ⟨CS, HO⟩
  sl_exec_parts (disch := simp only [dev63_eq])
  sl_step
  iapply Hk
  isplitl [Hacc]; · iexact Hacc
  isplitl [Hslot]; · iexact Hslot
  isplitl [AS CS]
  · unfold recvRes
    isplitr; · iexact IS
    isplitl [AS]; · iexact AS
    iexact CS
  iexact HO

end Cert.Kernel.AllReduce

end
-- ==== Proof.Word.BodyPart50.lean ====
/-
  The part of the body that ends the first reduce phase: the last chunk of half 0 lands, the 32 slots are read and
  summed through the GELU, and the own gather rows, written, are dealt out in the 32 shares of the gather copies.
-/
import proofs.«900438_g7700000000000439_dist_gemm_ar_m1024_k1024_n1024_f32_gelu_v7x_i32_1_alg».proof.Proof.Word.BodyTables
import proofs.«900438_g7700000000000439_dist_gemm_ar_m1024_k1024_n1024_f32_gelu_v7x_i32_1_alg».proof.Proof.Word.BodyGlue
import proofs.«900438_g7700000000000439_dist_gemm_ar_m1024_k1024_n1024_f32_gelu_v7x_i32_1_alg».proof.Proof.Word.OwnPieces
import proofs.«900438_g7700000000000439_dist_gemm_ar_m1024_k1024_n1024_f32_gelu_v7x_i32_1_alg».proof.Proof.Word.LoadPieces
import proofs.«900438_g7700000000000439_dist_gemm_ar_m1024_k1024_n1024_f32_gelu_v7x_i32_1_alg».proof.Proof.Word.GatherShares
import proofs.«900438_g7700000000000439_dist_gemm_ar_m1024_k1024_n1024_f32_gelu_v7x_i32_1_alg».proof.Proof.Word.Chains
noncomputable section
namespace Cert.Kernel.AllReduce
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Regions
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_rsR in
set_option maxHeartbeats 8000000 in
theorem part50_spec (c : Dev nD) (v2 : BitVec 32) (fo : Buf (Elt F) ((c : Thread nD τ).loc cc0_scratch1)) (W : Waits sig Unit) (Q : PUnit → sProp 𝕄) :
    iprop(recvRes m K rsR c 0 31
      ∗ levAts L lv
      ∗ ((slot 0 0).view.loc (c : Thread nD τ) ↦[(slot 0 0).view.set]{fullShare} (slot 0 0).view.rep (sent m (bwd c 0) c 0))
      ∗ ((slot 0 1).view.loc (c : Thread nD τ) ↦[(slot 0 1).view.set]{fullShare} (slot 0 1).view.rep (sent m (bwd c 1) c 0))
      ∗ ((slot 0 2).view.loc (c : Thread nD τ) ↦[(slot 0 2).view.set]{fullShare} (slot 0 2).view.rep (sent m (bwd c 2) c 0))
      ∗ ((slot 0 3).view.loc (c : Thread nD τ) ↦[(slot 0 3).view.set]{fullShare} (slot 0 3).view.rep (sent m (bwd c 3) c 0))
      ∗ ((slot 0 4).view.loc (c : Thread nD τ) ↦[(slot 0 4).view.set]{fullShare} (slot 0 4).view.rep (sent m (bwd c 4) c 0))
      ∗ ((slot 0 5).view.loc (c : Thread nD τ) ↦[(slot 0 5).view.set]{fullShare} (slot 0 5).view.rep (sent m (bwd c 5) c 0))
      ∗ ((slot 0 6).view.loc (c : Thread nD τ) ↦[(slot 0 6).view.set]{fullShare} (slot 0 6).view.rep (sent m (bwd c 6) c 0))
      ∗ ((slot 0 7).view.loc (c : Thread nD τ) ↦[(slot 0 7).view.set]{fullShare} (slot 0 7).view.rep (sent m (bwd c 7) c 0))
      ∗ ((slot 0 8).view.loc (c : Thread nD τ) ↦[(slot 0 8).view.set]{fullShare} (slot 0 8).view.rep (sent m (bwd c 8) c 0))
      ∗ ((slot 0 9).view.loc (c : Thread nD τ) ↦[(slot 0 9).view.set]{fullShare} (slot 0 9).view.rep (sent m (bwd c 9) c 0))
      ∗ ((slot 0 10).view.loc (c : Thread nD τ) ↦[(slot 0 10).view.set]{fullShare} (slot 0 10).view.rep (sent m (bwd c 10) c 0))
      ∗ ((slot 0 11).view.loc (c : Thread nD τ) ↦[(slot 0 11).view.set]{fullShare} (slot 0 11).view.rep (sent m (bwd c 11) c 0))
      ∗ ((slot 0 12).view.loc (c : Thread nD τ) ↦[(slot 0 12).view.set]{fullShare} (slot 0 12).view.rep (sent m (bwd c 12) c 0))
      ∗ ((slot 0 13).view.loc (c : Thread nD τ) ↦[(slot 0 13).view.set]{fullShare} (slot 0 13).view.rep (sent m (bwd c 13) c 0))
      ∗ ((slot 0 14).view.loc (c : Thread nD τ) ↦[(slot 0 14).view.set]{fullShare} (slot 0 14).view.rep (sent m (bwd c 14) c 0))
      ∗ ((slot 0 15).view.loc (c : Thread nD τ) ↦[(slot 0 15).view.set]{fullShare} (slot 0 15).view.rep (sent m (bwd c 15) c 0))
      ∗ ((slot 0 16).view.loc (c : Thread nD τ) ↦[(slot 0 16).view.set]{fullShare} (slot 0 16).view.rep (sent m (bwd c 16) c 0))
      ∗ ((slot 0 17).view.loc (c : Thread nD τ) ↦[(slot 0 17).view.set]{fullShare} (slot 0 17).view.rep (sent m (bwd c 17) c 0))
      ∗ ((slot 0 18).view.loc (c : Thread nD τ) ↦[(slot 0 18).view.set]{fullShare} (slot 0 18).view.rep (sent m (bwd c 18) c 0))
      ∗ ((slot 0 19).view.loc (c : Thread nD τ) ↦[(slot 0 19).view.set]{fullShare} (slot 0 19).view.rep (sent m (bwd c 19) c 0))
      ∗ ((slot 0 20).view.loc (c : Thread nD τ) ↦[(slot 0 20).view.set]{fullShare} (slot 0 20).view.rep (sent m (bwd c 20) c 0))
      ∗ ((slot 0 21).view.loc (c : Thread nD τ) ↦[(slot 0 21).view.set]{fullShare} (slot 0 21).view.rep (sent m (bwd c 21) c 0))
      ∗ ((slot 0 22).view.loc (c : Thread nD τ) ↦[(slot 0 22).view.set]{fullShare} (slot 0 22).view.rep (sent m (bwd c 22) c 0))
      ∗ ((slot 0 23).view.loc (c : Thread nD τ) ↦[(slot 0 23).view.set]{fullShare} (slot 0 23).view.rep (sent m (bwd c 23) c 0))
      ∗ ((slot 0 24).view.loc (c : Thread nD τ) ↦[(slot 0 24).view.set]{fullShare} (slot 0 24).view.rep (sent m (bwd c 24) c 0))
      ∗ ((slot 0 25).view.loc (c : Thread nD τ) ↦[(slot 0 25).view.set]{fullShare} (slot 0 25).view.rep (sent m (bwd c 25) c 0))
      ∗ ((slot 0 26).view.loc (c : Thread nD τ) ↦[(slot 0 26).view.set]{fullShare} (slot 0 26).view.rep (sent m (bwd c 26) c 0))
      ∗ ((slot 0 27).view.loc (c : Thread nD τ) ↦[(slot 0 27).view.set]{fullShare} (slot 0 27).view.rep (sent m (bwd c 27) c 0))
      ∗ ((slot 0 28).view.loc (c : Thread nD τ) ↦[(slot 0 28).view.set]{fullShare} (slot 0 28).view.rep (sent m (bwd c 28) c 0))
      ∗ ((slot 0 29).view.loc (c : Thread nD τ) ↦[(slot 0 29).view.set]{fullShare} (slot 0 29).view.rep (sent m (bwd c 29) c 0))
      ∗ ((slot 0 30).view.loc (c : Thread nD τ) ↦[(slot 0 30).view.set]{fullShare} (slot 0 30).view.rep (sent m (bwd c 30) c 0))
      ∗ ((chunk outM (fwd c 0) 0).view.loc (c : Thread nD τ) ↦[(chunk outM (fwd c 0) 0).view.set]{fullShare} fo)
      ∗ owes (c : Thread nD τ) (owedAfter c 93) W
      ∗ (∀ r, (((slot 0 0).view.loc (c : Thread nD τ) ↦[(slot 0 0).view.set]{fullShare} (slot 0 0).view.rep (sent m (bwd c 0) c 0))
        ∗ ((slot 0 1).view.loc (c : Thread nD τ) ↦[(slot 0 1).view.set]{fullShare} (slot 0 1).view.rep (sent m (bwd c 1) c 0))
        ∗ ((slot 0 2).view.loc (c : Thread nD τ) ↦[(slot 0 2).view.set]{fullShare} (slot 0 2).view.rep (sent m (bwd c 2) c 0))
        ∗ ((slot 0 3).view.loc (c : Thread nD τ) ↦[(slot 0 3).view.set]{fullShare} (slot 0 3).view.rep (sent m (bwd c 3) c 0))
        ∗ ((slot 0 4).view.loc (c : Thread nD τ) ↦[(slot 0 4).view.set]{fullShare} (slot 0 4).view.rep (sent m (bwd c 4) c 0))
        ∗ ((slot 0 5).view.loc (c : Thread nD τ) ↦[(slot 0 5).view.set]{fullShare} (slot 0 5).view.rep (sent m (bwd c 5) c 0))
        ∗ ((slot 0 6).view.loc (c : Thread nD τ) ↦[(slot 0 6).view.set]{fullShare} (slot 0 6).view.rep (sent m (bwd c 6) c 0))
        ∗ ((slot 0 7).view.loc (c : Thread nD τ) ↦[(slot 0 7).view.set]{fullShare} (slot 0 7).view.rep (sent m (bwd c 7) c 0))
        ∗ ((slot 0 8).view.loc (c : Thread nD τ) ↦[(slot 0 8).view.set]{fullShare} (slot 0 8).view.rep (sent m (bwd c 8) c 0))
        ∗ ((slot 0 9).view.loc (c : Thread nD τ) ↦[(slot 0 9).view.set]{fullShare} (slot 0 9).view.rep (sent m (bwd c 9) c 0))
        ∗ ((slot 0 10).view.loc (c : Thread nD τ) ↦[(slot 0 10).view.set]{fullShare} (slot 0 10).view.rep (sent m (bwd c 10) c 0))
        ∗ ((slot 0 11).view.loc (c : Thread nD τ) ↦[(slot 0 11).view.set]{fullShare} (slot 0 11).view.rep (sent m (bwd c 11) c 0))
        ∗ ((slot 0 12).view.loc (c : Thread nD τ) ↦[(slot 0 12).view.set]{fullShare} (slot 0 12).view.rep (sent m (bwd c 12) c 0))
        ∗ ((slot 0 13).view.loc (c : Thread nD τ) ↦[(slot 0 13).view.set]{fullShare} (slot 0 13).view.rep (sent m (bwd c 13) c 0))
        ∗ ((slot 0 14).view.loc (c : Thread nD τ) ↦[(slot 0 14).view.set]{fullShare} (slot 0 14).view.rep (sent m (bwd c 14) c 0))
        ∗ ((slot 0 15).view.loc (c : Thread nD τ) ↦[(slot 0 15).view.set]{fullShare} (slot 0 15).view.rep (sent m (bwd c 15) c 0))
        ∗ ((slot 0 16).view.loc (c : Thread nD τ) ↦[(slot 0 16).view.set]{fullShare} (slot 0 16).view.rep (sent m (bwd c 16) c 0))
        ∗ ((slot 0 17).view.loc (c : Thread nD τ) ↦[(slot 0 17).view.set]{fullShare} (slot 0 17).view.rep (sent m (bwd c 17) c 0))
        ∗ ((slot 0 18).view.loc (c : Thread nD τ) ↦[(slot 0 18).view.set]{fullShare} (slot 0 18).view.rep (sent m (bwd c 18) c 0))
        ∗ ((slot 0 19).view.loc (c : Thread nD τ) ↦[(slot 0 19).view.set]{fullShare} (slot 0 19).view.rep (sent m (bwd c 19) c 0))
        ∗ ((slot 0 20).view.loc (c : Thread nD τ) ↦[(slot 0 20).view.set]{fullShare} (slot 0 20).view.rep (sent m (bwd c 20) c 0))
        ∗ ((slot 0 21).view.loc (c : Thread nD τ) ↦[(slot 0 21).view.set]{fullShare} (slot 0 21).view.rep (sent m (bwd c 21) c 0))
        ∗ ((slot 0 22).view.loc (c : Thread nD τ) ↦[(slot 0 22).view.set]{fullShare} (slot 0 22).view.rep (sent m (bwd c 22) c 0))
        ∗ ((slot 0 23).view.loc (c : Thread nD τ) ↦[(slot 0 23).view.set]{fullShare} (slot 0 23).view.rep (sent m (bwd c 23) c 0))
        ∗ ((slot 0 24).view.loc (c : Thread nD τ) ↦[(slot 0 24).view.set]{fullShare} (slot 0 24).view.rep (sent m (bwd c 24) c 0))
        ∗ ((slot 0 25).view.loc (c : Thread nD τ) ↦[(slot 0 25).view.set]{fullShare} (slot 0 25).view.rep (sent m (bwd c 25) c 0))
        ∗ ((slot 0 26).view.loc (c : Thread nD τ) ↦[(slot 0 26).view.set]{fullShare} (slot 0 26).view.rep (sent m (bwd c 26) c 0))
        ∗ ((slot 0 27).view.loc (c : Thread nD τ) ↦[(slot 0 27).view.set]{fullShare} (slot 0 27).view.rep (sent m (bwd c 27) c 0))
        ∗ ((slot 0 28).view.loc (c : Thread nD τ) ↦[(slot 0 28).view.set]{fullShare} (slot 0 28).view.rep (sent m (bwd c 28) c 0))
        ∗ ((slot 0 29).view.loc (c : Thread nD τ) ↦[(slot 0 29).view.set]{fullShare} (slot 0 29).view.rep (sent m (bwd c 29) c 0))
        ∗ ((slot 0 30).view.loc (c : Thread nD τ) ↦[(slot 0 30).view.set]{fullShare} (slot 0 30).view.rep (sent m (bwd c 30) c 0))
        ∗ ((slot 0 31).view.loc (c : Thread nD τ) ↦[(slot 0 31).view.set]{fullShare} (slot 0 31).view.rep (sent m (bwd c 31) c 0))
        ∗ (cellInv ER (sched m) (K (dmaCell c rsR 0 31)) (dmaCell c rsR 0 31) ∗ atPos ER (dmaCell c rsR 0 31) 1 ∅ 0)
        ∗ ((chunk outM c 0).view.loc (c : Thread nD τ) ↦[(chunk outM c 0).view.set]{shr 0} (chunk outM c 0).view.rep (reduced m c 0))
        ∗ ((chunk outM c 0).view.loc (c : Thread nD τ) ↦[(chunk outM c 0).view.set]{shr 1} (chunk outM c 0).view.rep (reduced m c 0))
        ∗ ((chunk outM c 0).view.loc (c : Thread nD τ) ↦[(chunk outM c 0).view.set]{shr 2} (chunk outM c 0).view.rep (reduced m c 0))
        ∗ ((chunk outM c 0).view.loc (c : Thread nD τ) ↦[(chunk outM c 0).view.set]{shr 3} (chunk outM c 0).view.rep (reduced m c 0))
        ∗ ((chunk outM c 0).view.loc (c : Thread nD τ) ↦[(chunk outM c 0).view.set]{shr 4} (chunk outM c 0).view.rep (reduced m c 0))
        ∗ ((chunk outM c 0).view.loc (c : Thread nD τ) ↦[(chunk outM c 0).view.set]{shr 5} (chunk outM c 0).view.rep (reduced m c 0))
        ∗ ((chunk outM c 0).view.loc (c : Thread nD τ) ↦[(chunk outM c 0).view.set]{shr 6} (chunk outM c 0).view.rep (reduced m c 0))
        ∗ ((chunk outM c 0).view.loc (c : Thread nD τ) ↦[(chunk outM c 0).view.set]{shr 7} (chunk outM c 0).view.rep (reduced m c 0))
        ∗ ((chunk outM c 0).view.loc (c : Thread nD τ) ↦[(chunk outM c 0).view.set]{shr 8} (chunk outM c 0).view.rep (reduced m c 0))
        ∗ ((chunk outM c 0).view.loc (c : Thread nD τ) ↦[(chunk outM c 0).view.set]{shr 9} (chunk outM c 0).view.rep (reduced m c 0))
        ∗ ((chunk outM c 0).view.loc (c : Thread nD τ) ↦[(chunk outM c 0).view.set]{shr 10} (chunk outM c 0).view.rep (reduced m c 0))
        ∗ ((chunk outM c 0).view.loc (c : Thread nD τ) ↦[(chunk outM c 0).view.set]{shr 11} (chunk outM c 0).view.rep (reduced m c 0))
        ∗ ((chunk outM c 0).view.loc (c : Thread nD τ) ↦[(chunk outM c 0).view.set]{shr 12} (chunk outM c 0).view.rep (reduced m c 0))
        ∗ ((chunk outM c 0).view.loc (c : Thread nD τ) ↦[(chunk outM c 0).view.set]{shr 13} (chunk outM c 0).view.rep (reduced m c 0))
        ∗ ((chunk outM c 0).view.loc (c : Thread nD τ) ↦[(chunk outM c 0).view.set]{shr 14} (chunk outM c 0).view.rep (reduced m c 0))
        ∗ ((chunk outM c 0).view.loc (c : Thread nD τ) ↦[(chunk outM c 0).view.set]{shr 15} (chunk outM c 0).view.rep (reduced m c 0))
        ∗ ((chunk outM c 0).view.loc (c : Thread nD τ) ↦[(chunk outM c 0).view.set]{shr 16} (chunk outM c 0).view.rep (reduced m c 0))
        ∗ ((chunk outM c 0).view.loc (c : Thread nD τ) ↦[(chunk outM c 0).view.set]{shr 17} (chunk outM c 0).view.rep (reduced m c 0))
        ∗ ((chunk outM c 0).view.loc (c : Thread nD τ) ↦[(chunk outM c 0).view.set]{shr 18} (chunk outM c 0).view.rep (reduced m c 0))
        ∗ ((chunk outM c 0).view.loc (c : Thread nD τ) ↦[(chunk outM c 0).view.set]{shr 19} (chunk outM c 0).view.rep (reduced m c 0))
        ∗ ((chunk outM c 0).view.loc (c : Thread nD τ) ↦[(chunk outM c 0).view.set]{shr 20} (chunk outM c 0).view.rep (reduced m c 0))
        ∗ ((chunk outM c 0).view.loc (c : Thread nD τ) ↦[(chunk outM c 0).view.set]{shr 21} (chunk outM c 0).view.rep (reduced m c 0))
        ∗ ((chunk outM c 0).view.loc (c : Thread nD τ) ↦[(chunk outM c 0).view.set]{shr 22} (chunk outM c 0).view.rep (reduced m c 0))
        ∗ ((chunk outM c 0).view.loc (c : Thread nD τ) ↦[(chunk outM c 0).view.set]{shr 23} (chunk outM c 0).view.rep (reduced m c 0))
        ∗ ((chunk outM c 0).view.loc (c : Thread nD τ) ↦[(chunk outM c 0).view.set]{shr 24} (chunk outM c 0).view.rep (reduced m c 0))
        ∗ ((chunk outM c 0).view.loc (c : Thread nD τ) ↦[(chunk outM c 0).view.set]{shr 25} (chunk outM c 0).view.rep (reduced m c 0))
        ∗ ((chunk outM c 0).view.loc (c : Thread nD τ) ↦[(chunk outM c 0).view.set]{shr 26} (chunk outM c 0).view.rep (reduced m c 0))
        ∗ ((chunk outM c 0).view.loc (c : Thread nD τ) ↦[(chunk outM c 0).view.set]{shr 27} (chunk outM c 0).view.rep (reduced m c 0))
        ∗ ((chunk outM c 0).view.loc (c : Thread nD τ) ↦[(chunk outM c 0).view.set]{shr 28} (chunk outM c 0).view.rep (reduced m c 0))
        ∗ ((chunk outM c 0).view.loc (c : Thread nD τ) ↦[(chunk outM c 0).view.set]{shr 29} (chunk outM c 0).view.rep (reduced m c 0))
        ∗ ((chunk outM c 0).view.loc (c : Thread nD τ) ↦[(chunk outM c 0).view.set]{shr 30} (chunk outM c 0).view.rep (reduced m c 0))
        ∗ ((chunk outM c 0).view.loc (c : Thread nD τ) ↦[(chunk outM c 0).view.set]{shr 31} (chunk outM c 0).view.rep (reduced m c 0))
        ∗ owes (c : Thread nD τ) (owedAfter c 93) (insert (SemLoc.dma (semAt (arr rsR) 0 31), ()) (W))) -∗ Q r))
      ⊢ wp frame (wpE (defs₀ (F := F)) 𝒱₀ c none) Set.univ (k0_part50 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  have hred : reduced m c 0 = k0_pay7 (halfVal m c 0) := by unfold reduced; rw [if_pos rfl]
  rw [fwd_zero c]
  unfold recvRes
  iintro ⟨⟨#I31, A31, C31⟩, #Hlev, S0, S1, S2, S3, S4, S5, S6, S7, S8, S9, S10, S11, S12, S13, S14, S15, S16, S17, S18, S19, S20, S21, S22, S23, S24, S25, S26, S27, S28, S29, S30, Hout, HO, Hk⟩
  have hmw31 := mayWait_rsR0 (F := F) c 31
  sl_exec_parts
  iapply (wp_load_half (defs := defs₀ (F := F)) (Γ := .empty) (Q := Q) (Ix := Unit) (Name := ℕ) (U := UU) (Lvl := ℕ) 𝒱₀ c none Set.univ (0 : Fin 2) (off := ![0, 0, 0, 0]) rfl
    (inb := inb_S2x32x32x512_S1x32x32x512_0_0_0_0) (hl := View.loadsAt_vmem h_S1x32x32x512) fullShare (fun s => sent m (bwd c s) c 0)) $$ [S0 S1 S2 S3 S4 S5 S6 S7 S8 S9 S10 S11 S12 S13 S14 S15 S16 S17 S18 S19 S20 S21 S22 S23 S24 S25 S26 S27 S28 S29 S30 A31_pay1]
  · rw [places_chain]
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    iexact A31_pay1
  rw [places_chain]
  iintro ⟨T0, T1, T2, T3, T4, T5, T6, T7, T8, T9, T10, T11, T12, T13, T14, T15, T16, T17, T18, T19, T20, T21, T22, T23, T24, T25, T26, T27, T28, T29, T30, T31⟩
  iapply (wp_load_chunk_out (defs := defs₀ (F := F)) (Γ := .empty) (Q := Q) (Ix := Unit) (Name := ℕ) (U := UU) (Lvl := ℕ) 𝒱₀ c none Set.univ c (0 : Fin 2) (k0_off1_eq c)) $$ [Hout]
  · iexact Hout
  iintro Hout
  iapply (wp_store_chunk_out (defs := defs₀ (F := F)) (Γ := .empty) (Q := Q) (Ix := Unit) (Name := ℕ) (U := UU) (Lvl := ℕ) 𝒱₀ c none Set.univ c (0 : Fin 2) (k0_off1_eq c)
    (k0_pay7 (F := F) (halfVal m c 0))) $$ [Hout]
  · iexact Hout
  iintro Hout
  have eret : ((Prog.ret PUnit.unit : Prog (TpuEff nD τ sig (Elt F) Λ₀ .tc) PUnit).bind fun __r => (Pure.pure PUnit.unit : Prog (TpuEff nD τ sig (Elt F) Λ₀ .tc) PUnit))
      = (Pure.pure PUnit.unit : Prog (TpuEff nD τ sig (Elt F) Λ₀ .tc) PUnit) := rfl
  rw [eret]
  sl_step
  rw [← hred]
  ihave Hsh := (Entails.of_eq (pointsTo_full_eq_shares (Ix := Unit) (Name := ℕ) (U := UU) (Lvl := ℕ) (ℓ := (chunk outM c 0).view.loc (c : Thread nD τ))
    (chunk outM c 0).view.set ((chunk outM c 0).view.rep (reduced m c 0)))) $$ Hout
  rw [ks_chain]
  icases Hsh with ⟨R0, R1, R2, R3, R4, R5, R6, R7, R8, R9, R10, R11, R12, R13, R14, R15, R16, R17, R18, R19, R20, R21, R22, R23, R24, R25, R26, R27, R28, R29, R30, R31⟩
  iapply Hk
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  isplitl [T25]; · iexact T25
  isplitl [T26]; · iexact T26
  isplitl [T27]; · iexact T27
  isplitl [T28]; · iexact T28
  isplitl [T29]; · iexact T29
  isplitl [T30]; · iexact T30
  isplitl [T31]; · iexact T31
  isplitl [A31]; · (isplitr; · iexact I31); iexact A31
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [R18]; · iexact R18
  isplitl [R19]; · iexact R19
  isplitl [R20]; · iexact R20
  isplitl [R21]; · iexact R21
  isplitl [R22]; · iexact R22
  isplitl [R23]; · iexact R23
  isplitl [R24]; · iexact R24
  isplitl [R25]; · iexact R25
  isplitl [R26]; · iexact R26
  isplitl [R27]; · iexact R27
  isplitl [R28]; · iexact R28
  isplitl [R29]; · iexact R29
  isplitl [R30]; · iexact R30
  isplitl [R31]; · iexact R31
  iexact HO

/-- info: 'Cert.Kernel.AllReduce.part50_spec' depends on axioms: [propext, Classical.choice, Quot.sound] -/
#guard_msgs in #print axioms part50_spec

end Cert.Kernel.AllReduce

end
-- ==== Proof.Word.BodyPart78.lean ====
/-
  The end of the receive waits of half 1 and the read of the 32 slots.
-/
import proofs.«900438_g7700000000000439_dist_gemm_ar_m1024_k1024_n1024_f32_gelu_v7x_i32_1_alg».proof.Proof.Word.BodyTables
import proofs.«900438_g7700000000000439_dist_gemm_ar_m1024_k1024_n1024_f32_gelu_v7x_i32_1_alg».proof.Proof.Word.LoadPieces
import proofs.«900438_g7700000000000439_dist_gemm_ar_m1024_k1024_n1024_f32_gelu_v7x_i32_1_alg».proof.Proof.Word.Chains
noncomputable section
namespace Cert.Kernel.AllReduce
open Cert.Kernel Cert.Kernel.Gen Cert.Kernel.Regions
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_rsR in
set_option maxHeartbeats 8000000 in
/-- The last two receive waits of half 1, then the operand of the sum: the 32 slots of half 1 read as one block. -/
theorem part78_spec (c : Dev nD) (v2 : BitVec 32) (W : Waits sig Unit) (Q : (Σ' (v1984 : FVec F S32x512 .f32), FVec F S32x512 .f32) → sProp 𝕄) :
    iprop(recvRes m K rsR c 1 30
      ∗ recvRes m K rsR c 1 31
      ∗ levAts L lv
      ∗ ((slot 1 0).view.loc (c : Thread nD τ) ↦[(slot 1 0).view.set]{fullShare} (slot 1 0).view.rep (sent m (bwd c 0) c 1))
      ∗ ((slot 1 1).view.loc (c : Thread nD τ) ↦[(slot 1 1).view.set]{fullShare} (slot 1 1).view.rep (sent m (bwd c 1) c 1))
      ∗ ((slot 1 2).view.loc (c : Thread nD τ) ↦[(slot 1 2).view.set]{fullShare} (slot 1 2).view.rep (sent m (bwd c 2) c 1))
      ∗ ((slot 1 3).view.loc (c : Thread nD τ) ↦[(slot 1 3).view.set]{fullShare} (slot 1 3).view.rep (sent m (bwd c 3) c 1))
      ∗ ((slot 1 4).view.loc (c : Thread nD τ) ↦[(slot 1 4).view.set]{fullShare} (slot 1 4).view.rep (sent m (bwd c 4) c 1))
      ∗ ((slot 1 5).view.loc (c : Thread nD τ) ↦[(slot 1 5).view.set]{fullShare} (slot 1 5).view.rep (sent m (bwd c 5) c 1))
      ∗ ((slot 1 6).view.loc (c : Thread nD τ) ↦[(slot 1 6).view.set]{fullShare} (slot 1 6).view.rep (sent m (bwd c 6) c 1))
      ∗ ((slot 1 7).view.loc (c : Thread nD τ) ↦[(slot 1 7).view.set]{fullShare} (slot 1 7).view.rep (sent m (bwd c 7) c 1))
      ∗ ((slot 1 8).view.loc (c : Thread nD τ) ↦[(slot 1 8).view.set]{fullShare} (slot 1 8).view.rep (sent m (bwd c 8) c 1))
      ∗ ((slot 1 9).view.loc (c : Thread nD τ) ↦[(slot 1 9).view.set]{fullShare} (slot 1 9).view.rep (sent m (bwd c 9) c 1))
      ∗ ((slot 1 10).view.loc (c : Thread nD τ) ↦[(slot 1 10).view.set]{fullShare} (slot 1 10).view.rep (sent m (bwd c 10) c 1))
      ∗ ((slot 1 11).view.loc (c : Thread nD τ) ↦[(slot 1 11).view.set]{fullShare} (slot 1 11).view.rep (sent m (bwd c 11) c 1))
      ∗ ((slot 1 12).view.loc (c : Thread nD τ) ↦[(slot 1 12).view.set]{fullShare} (slot 1 12).view.rep (sent m (bwd c 12) c 1))
      ∗ ((slot 1 13).view.loc (c : Thread nD τ) ↦[(slot 1 13).view.set]{fullShare} (slot 1 13).view.rep (sent m (bwd c 13) c 1))
      ∗ ((slot 1 14).view.loc (c : Thread nD τ) ↦[(slot 1 14).view.set]{fullShare} (slot 1 14).view.rep (sent m (bwd c 14) c 1))
      ∗ ((slot 1 15).view.loc (c : Thread nD τ) ↦[(slot 1 15).view.set]{fullShare} (slot 1 15).view.rep (sent m (bwd c 15) c 1))
      ∗ ((slot 1 16).view.loc (c : Thread nD τ) ↦[(slot 1 16).view.set]{fullShare} (slot 1 16).view.rep (sent m (bwd c 16) c 1))
      ∗ ((slot 1 17).view.loc (c : Thread nD τ) ↦[(slot 1 17).view.set]{fullShare} (slot 1 17).view.rep (sent m (bwd c 17) c 1))
      ∗ ((slot 1 18).view.loc (c : Thread nD τ) ↦[(slot 1 18).view.set]{fullShare} (slot 1 18).view.rep (sent m (bwd c 18) c 1))
      ∗ ((slot 1 19).view.loc (c : Thread nD τ) ↦[(slot 1 19).view.set]{fullShare} (slot 1 19).view.rep (sent m (bwd c 19) c 1))
      ∗ ((slot 1 20).view.loc (c : Thread nD τ) ↦[(slot 1 20).view.set]{fullShare} (slot 1 20).view.rep (sent m (bwd c 20) c 1))
      ∗ ((slot 1 21).view.loc (c : Thread nD τ) ↦[(slot 1 21).view.set]{fullShare} (slot 1 21).view.rep (sent m (bwd c 21) c 1))
      ∗ ((slot 1 22).view.loc (c : Thread nD τ) ↦[(slot 1 22).view.set]{fullShare} (slot 1 22).view.rep (sent m (bwd c 22) c 1))
      ∗ ((slot 1 23).view.loc (c : Thread nD τ) ↦[(slot 1 23).view.set]{fullShare} (slot 1 23).view.rep (sent m (bwd c 23) c 1))
      ∗ ((slot 1 24).view.loc (c : Thread nD τ) ↦[(slot 1 24).view.set]{fullShare} (slot 1 24).view.rep (sent m (bwd c 24) c 1))
      ∗ ((slot 1 25).view.loc (c : Thread nD τ) ↦[(slot 1 25).view.set]{fullShare} (slot 1 25).view.rep (sent m (bwd c 25) c 1))
      ∗ ((slot 1 26).view.loc (c : Thread nD τ) ↦[(slot 1 26).view.set]{fullShare} (slot 1 26).view.rep (sent m (bwd c 26) c 1))
      ∗ ((slot 1 27).view.loc (c : Thread nD τ) ↦[(slot 1 27).view.set]{fullShare} (slot 1 27).view.rep (sent m (bwd c 27) c 1))
      ∗ ((slot 1 28).view.loc (c : Thread nD τ) ↦[(slot 1 28).view.set]{fullShare} (slot 1 28).view.rep (sent m (bwd c 28) c 1))
      ∗ ((slot 1 29).view.loc (c : Thread nD τ) ↦[(slot 1 29).view.set]{fullShare} (slot 1 29).view.rep (sent m (bwd c 29) c 1))
      ∗ owes (c : Thread nD τ) (owedAfter c 124) W
      ∗ ((((slot 1 0).view.loc (c : Thread nD τ) ↦[(slot 1 0).view.set]{fullShare} (slot 1 0).view.rep (sent m (bwd c 0) c 1))
        ∗ ((slot 1 1).view.loc (c : Thread nD τ) ↦[(slot 1 1).view.set]{fullShare} (slot 1 1).view.rep (sent m (bwd c 1) c 1))
        ∗ ((slot 1 2).view.loc (c : Thread nD τ) ↦[(slot 1 2).view.set]{fullShare} (slot 1 2).view.rep (sent m (bwd c 2) c 1))
        ∗ ((slot 1 3).view.loc (c : Thread nD τ) ↦[(slot 1 3).view.set]{fullShare} (slot 1 3).view.rep (sent m (bwd c 3) c 1))
        ∗ ((slot 1 4).view.loc (c : Thread nD τ) ↦[(slot 1 4).view.set]{fullShare} (slot 1 4).view.rep (sent m (bwd c 4) c 1))
        ∗ ((slot 1 5).view.loc (c : Thread nD τ) ↦[(slot 1 5).view.set]{fullShare} (slot 1 5).view.rep (sent m (bwd c 5) c 1))
        ∗ ((slot 1 6).view.loc (c : Thread nD τ) ↦[(slot 1 6).view.set]{fullShare} (slot 1 6).view.rep (sent m (bwd c 6) c 1))
        ∗ ((slot 1 7).view.loc (c : Thread nD τ) ↦[(slot 1 7).view.set]{fullShare} (slot 1 7).view.rep (sent m (bwd c 7) c 1))
        ∗ ((slot 1 8).view.loc (c : Thread nD τ) ↦[(slot 1 8).view.set]{fullShare} (slot 1 8).view.rep (sent m (bwd c 8) c 1))
        ∗ ((slot 1 9).view.loc (c : Thread nD τ) ↦[(slot 1 9).view.set]{fullShare} (slot 1 9).view.rep (sent m (bwd c 9) c 1))
        ∗ ((slot 1 10).view.loc (c : Thread nD τ) ↦[(slot 1 10).view.set]{fullShare} (slot 1 10).view.rep (sent m (bwd c 10) c 1))
        ∗ ((slot 1 11).view.loc (c : Thread nD τ) ↦[(slot 1 11).view.set]{fullShare} (slot 1 11).view.rep (sent m (bwd c 11) c 1))
        ∗ ((slot 1 12).view.loc (c : Thread nD τ) ↦[(slot 1 12).view.set]{fullShare} (slot 1 12).view.rep (sent m (bwd c 12) c 1))
        ∗ ((slot 1 13).view.loc (c : Thread nD τ) ↦[(slot 1 13).view.set]{fullShare} (slot 1 13).view.rep (sent m (bwd c 13) c 1))
        ∗ ((slot 1 14).view.loc (c : Thread nD τ) ↦[(slot 1 14).view.set]{fullShare} (slot 1 14).view.rep (sent m (bwd c 14) c 1))
        ∗ ((slot 1 15).view.loc (c : Thread nD τ) ↦[(slot 1 15).view.set]{fullShare} (slot 1 15).view.rep (sent m (bwd c 15) c 1))
        ∗ ((slot 1 16).view.loc (c : Thread nD τ) ↦[(slot 1 16).view.set]{fullShare} (slot 1 16).view.rep (sent m (bwd c 16) c 1))
        ∗ ((slot 1 17).view.loc (c : Thread nD τ) ↦[(slot 1 17).view.set]{fullShare} (slot 1 17).view.rep (sent m (bwd c 17) c 1))
        ∗ ((slot 1 18).view.loc (c : Thread nD τ) ↦[(slot 1 18).view.set]{fullShare} (slot 1 18).view.rep (sent m (bwd c 18) c 1))
        ∗ ((slot 1 19).view.loc (c : Thread nD τ) ↦[(slot 1 19).view.set]{fullShare} (slot 1 19).view.rep (sent m (bwd c 19) c 1))
        ∗ ((slot 1 20).view.loc (c : Thread nD τ) ↦[(slot 1 20).view.set]{fullShare} (slot 1 20).view.rep (sent m (bwd c 20) c 1))
        ∗ ((slot 1 21).view.loc (c : Thread nD τ) ↦[(slot 1 21).view.set]{fullShare} (slot 1 21).view.rep (sent m (bwd c 21) c 1))
        ∗ ((slot 1 22).view.loc (c : Thread nD τ) ↦[(slot 1 22).view.set]{fullShare} (slot 1 22).view.rep (sent m (bwd c 22) c 1))
        ∗ ((slot 1 23).view.loc (c : Thread nD τ) ↦[(slot 1 23).view.set]{fullShare} (slot 1 23).view.rep (sent m (bwd c 23) c 1))
        ∗ ((slot 1 24).view.loc (c : Thread nD τ) ↦[(slot 1 24).view.set]{fullShare} (slot 1 24).view.rep (sent m (bwd c 24) c 1))
        ∗ ((slot 1 25).view.loc (c : Thread nD τ) ↦[(slot 1 25).view.set]{fullShare} (slot 1 25).view.rep (sent m (bwd c 25) c 1))
        ∗ ((slot 1 26).view.loc (c : Thread nD τ) ↦[(slot 1 26).view.set]{fullShare} (slot 1 26).view.rep (sent m (bwd c 26) c 1))
        ∗ ((slot 1 27).view.loc (c : Thread nD τ) ↦[(slot 1 27).view.set]{fullShare} (slot 1 27).view.rep (sent m (bwd c 27) c 1))
        ∗ ((slot 1 28).view.loc (c : Thread nD τ) ↦[(slot 1 28).view.set]{fullShare} (slot 1 28).view.rep (sent m (bwd c 28) c 1))
        ∗ ((slot 1 29).view.loc (c : Thread nD τ) ↦[(slot 1 29).view.set]{fullShare} (slot 1 29).view.rep (sent m (bwd c 29) c 1))
        ∗ ((slot 1 30).view.loc (c : Thread nD τ) ↦[(slot 1 30).view.set]{fullShare} (slot 1 30).view.rep (sent m (bwd c 30) c 1))
        ∗ ((slot 1 31).view.loc (c : Thread nD τ) ↦[(slot 1 31).view.set]{fullShare} (slot 1 31).view.rep (sent m (bwd c 31) c 1))
        ∗ (cellInv ER (sched m) (K (dmaCell c rsR 1 30)) (dmaCell c rsR 1 30) ∗ atPos ER (dmaCell c rsR 1 30) 1 ∅ 0)
        ∗ (cellInv ER (sched m) (K (dmaCell c rsR 1 31)) (dmaCell c rsR 1 31) ∗ atPos ER (dmaCell c rsR 1 31) 1 ∅ 0)
        ∗ owes (c : Thread nD τ) (owedAfter c 124) (insert (SemLoc.dma (semAt (arr rsR) 1 31), ()) (insert (SemLoc.dma (semAt (arr rsR) 1 30), ()) (W)))) -∗ Q ⟨k0_pay9 (halfVal m c 1), k0_pay10 (halfVal m c 1)⟩))
      ⊢ wp frame (wpE (defs₀ (F := F)) 𝒱₀ c none) Set.univ (k0_part78 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  unfold recvRes halfVal
  iintro ⟨⟨#I30, A30, C30⟩, ⟨#I31, A31, C31⟩, #Hlev, G0, G1, G2, G3, G4, G5, G6, G7, G8, G9, G10, G11, G12, G13, G14, G15, G16, G17, G18, G19, G20, G21, G22, G23, G24, G25, G26, G27, G28, G29, HO, Hk⟩
  have hmw30 := mayWait_rsR1 (F := F) c 30
  have hmw31 := mayWait_rsR1 (F := F) c 31
  sl_exec_parts
  iapply (wp_load_half' 𝒱₀ c none Set.univ 1 rfl fullShare (slotVal m c 1)) $$ [G0 G1 G2 G3 G4 G5 G6 G7 G8 G9 G10 G11 G12 G13 G14 G15 G16 G17 G18 G19 G20 G21 G22 G23 G24 G25 G26 G27 G28 G29 A30_pay1 A31_pay1]
  · isplitl [G0]; · iexact G0
    rw [ks_chain]
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    isplitl [G18]; · iexact G18
    isplitl [G19]; · iexact G19
    isplitl [G20]; · iexact G20
    isplitl [G21]; · iexact G21
    isplitl [G22]; · iexact G22
    isplitl [G23]; · iexact G23
    isplitl [G24]; · iexact G24
    isplitl [G25]; · iexact G25
    isplitl [G26]; · iexact G26
    isplitl [G27]; · iexact G27
    isplitl [G28]; · iexact G28
    isplitl [G29]; · iexact G29
    isplitl [A30_pay1]; · iexact A30_pay1
    iexact A31_pay1
  iintro ⟨G0, Gall⟩
  sl_exec_parts
  sl_step
  ihave Gall := (Entails.of_eq (ks_chain _)) $$ Gall
  icases Gall with ⟨S1, S2, S3, S4, S5, S6, S7, S8, S9, S10, S11, S12, S13, S14, S15, S16, S17, S18, S19, S20, S21, S22, S23, S24, S25, S26, S27, S28, S29, S30, S31⟩
  iapply Hk
  isplitl [G0]; · iexact G0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [A30]; · (isplitr; · iexact I30); iexact A30
  isplitl [A31]; · (isplitr; · iexact I31); iexact A31
  iexact HO

end Cert.Kernel.AllReduce

end
-- ==== Proof.Word.BodyPart79.lean ====
/-
  The part of the body that finishes the second half's reduction: the own gather rows of half 1 are written, dealt out
  in the 32 shares of the gather copies, and the first of those copies is sent.
-/
import proofs.«900438_g7700000000000439_dist_gemm_ar_m1024_k1024_n1024_f32_gelu_v7x_i32_1_alg».proof.Proof.Word.BodyTables
import proofs.«900438_g7700000000000439_dist_gemm_ar_m1024_k1024_n1024_f32_gelu_v7x_i32_1_alg».proof.Proof.Word.BodyGlue
import proofs.«900438_g7700000000000439_dist_gemm_ar_m1024_k1024_n1024_f32_gelu_v7x_i32_1_alg».proof.Proof.Word.OwnPieces
import proofs.«900438_g7700000000000439_dist_gemm_ar_m1024_k1024_n1024_f32_gelu_v7x_i32_1_alg».proof.Proof.Word.GatherShares
import proofs.«900438_g7700000000000439_dist_gemm_ar_m1024_k1024_n1024_f32_gelu_v7x_i32_1_alg».proof.Proof.Word.BodyValues
import proofs.«900438_g7700000000000439_dist_gemm_ar_m1024_k1024_n1024_f32_gelu_v7x_i32_1_alg».proof.Proof.Word.Chains
noncomputable section
namespace Cert.Kernel.AllReduce
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Regions
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_agS pay_agR in
set_option maxHeartbeats 8000000 in
theorem part79_spec (c : Dev nD) (v2 : BitVec 32) (fo : Buf (Elt F) ((c : Thread nD τ).loc cc0_scratch1)) (O : CellTallies nD τ sig Unit) (W : Waits sig Unit) (Q : PUnit → sProp 𝕄) :
    iprop(((chunk outM (fwd c 0) 1).view.loc (c : Thread nD τ) ↦[(chunk outM (fwd c 0) 1).view.set]{fullShare} fo)
      ∗ copyRes m K agS agR c 1 1
      ∗ (∃ f, ((chunk outM c 1).view.loc (fwd c 1 : Thread nD τ) ↦[(chunk outM c 1).view.set]{fullShare} f))
      ∗ owes (c : Thread nD τ) (O + tallyAt (dmaCell (fwd c 1) agR 1 1) () Nc) W
      ∗ (∀ r, (((chunk outM c 1).view.loc (c : Thread nD τ) ↦[(chunk outM c 1).view.set]{shr 0} (chunk outM c 1).view.rep (reduced m c 1))
        ∗ ((chunk outM c 1).view.loc (c : Thread nD τ) ↦[(chunk outM c 1).view.set]{shr 2} (chunk outM c 1).view.rep (reduced m c 1))
        ∗ ((chunk outM c 1).view.loc (c : Thread nD τ) ↦[(chunk outM c 1).view.set]{shr 3} (chunk outM c 1).view.rep (reduced m c 1))
        ∗ ((chunk outM c 1).view.loc (c : Thread nD τ) ↦[(chunk outM c 1).view.set]{shr 4} (chunk outM c 1).view.rep (reduced m c 1))
        ∗ ((chunk outM c 1).view.loc (c : Thread nD τ) ↦[(chunk outM c 1).view.set]{shr 5} (chunk outM c 1).view.rep (reduced m c 1))
        ∗ ((chunk outM c 1).view.loc (c : Thread nD τ) ↦[(chunk outM c 1).view.set]{shr 6} (chunk outM c 1).view.rep (reduced m c 1))
        ∗ ((chunk outM c 1).view.loc (c : Thread nD τ) ↦[(chunk outM c 1).view.set]{shr 7} (chunk outM c 1).view.rep (reduced m c 1))
        ∗ ((chunk outM c 1).view.loc (c : Thread nD τ) ↦[(chunk outM c 1).view.set]{shr 8} (chunk outM c 1).view.rep (reduced m c 1))
        ∗ ((chunk outM c 1).view.loc (c : Thread nD τ) ↦[(chunk outM c 1).view.set]{shr 9} (chunk outM c 1).view.rep (reduced m c 1))
        ∗ ((chunk outM c 1).view.loc (c : Thread nD τ) ↦[(chunk outM c 1).view.set]{shr 10} (chunk outM c 1).view.rep (reduced m c 1))
        ∗ ((chunk outM c 1).view.loc (c : Thread nD τ) ↦[(chunk outM c 1).view.set]{shr 11} (chunk outM c 1).view.rep (reduced m c 1))
        ∗ ((chunk outM c 1).view.loc (c : Thread nD τ) ↦[(chunk outM c 1).view.set]{shr 12} (chunk outM c 1).view.rep (reduced m c 1))
        ∗ ((chunk outM c 1).view.loc (c : Thread nD τ) ↦[(chunk outM c 1).view.set]{shr 13} (chunk outM c 1).view.rep (reduced m c 1))
        ∗ ((chunk outM c 1).view.loc (c : Thread nD τ) ↦[(chunk outM c 1).view.set]{shr 14} (chunk outM c 1).view.rep (reduced m c 1))
        ∗ ((chunk outM c 1).view.loc (c : Thread nD τ) ↦[(chunk outM c 1).view.set]{shr 15} (chunk outM c 1).view.rep (reduced m c 1))
        ∗ ((chunk outM c 1).view.loc (c : Thread nD τ) ↦[(chunk outM c 1).view.set]{shr 16} (chunk outM c 1).view.rep (reduced m c 1))
        ∗ ((chunk outM c 1).view.loc (c : Thread nD τ) ↦[(chunk outM c 1).view.set]{shr 17} (chunk outM c 1).view.rep (reduced m c 1))
        ∗ ((chunk outM c 1).view.loc (c : Thread nD τ) ↦[(chunk outM c 1).view.set]{shr 18} (chunk outM c 1).view.rep (reduced m c 1))
        ∗ ((chunk outM c 1).view.loc (c : Thread nD τ) ↦[(chunk outM c 1).view.set]{shr 19} (chunk outM c 1).view.rep (reduced m c 1))
        ∗ ((chunk outM c 1).view.loc (c : Thread nD τ) ↦[(chunk outM c 1).view.set]{shr 20} (chunk outM c 1).view.rep (reduced m c 1))
        ∗ ((chunk outM c 1).view.loc (c : Thread nD τ) ↦[(chunk outM c 1).view.set]{shr 21} (chunk outM c 1).view.rep (reduced m c 1))
        ∗ ((chunk outM c 1).view.loc (c : Thread nD τ) ↦[(chunk outM c 1).view.set]{shr 22} (chunk outM c 1).view.rep (reduced m c 1))
        ∗ ((chunk outM c 1).view.loc (c : Thread nD τ) ↦[(chunk outM c 1).view.set]{shr 23} (chunk outM c 1).view.rep (reduced m c 1))
        ∗ ((chunk outM c 1).view.loc (c : Thread nD τ) ↦[(chunk outM c 1).view.set]{shr 24} (chunk outM c 1).view.rep (reduced m c 1))
        ∗ ((chunk outM c 1).view.loc (c : Thread nD τ) ↦[(chunk outM c 1).view.set]{shr 25} (chunk outM c 1).view.rep (reduced m c 1))
        ∗ ((chunk outM c 1).view.loc (c : Thread nD τ) ↦[(chunk outM c 1).view.set]{shr 26} (chunk outM c 1).view.rep (reduced m c 1))
        ∗ ((chunk outM c 1).view.loc (c : Thread nD τ) ↦[(chunk outM c 1).view.set]{shr 27} (chunk outM c 1).view.rep (reduced m c 1))
        ∗ ((chunk outM c 1).view.loc (c : Thread nD τ) ↦[(chunk outM c 1).view.set]{shr 28} (chunk outM c 1).view.rep (reduced m c 1))
        ∗ ((chunk outM c 1).view.loc (c : Thread nD τ) ↦[(chunk outM c 1).view.set]{shr 29} (chunk outM c 1).view.rep (reduced m c 1))
        ∗ ((chunk outM c 1).view.loc (c : Thread nD τ) ↦[(chunk outM c 1).view.set]{shr 30} (chunk outM c 1).view.rep (reduced m c 1))
        ∗ ((chunk outM c 1).view.loc (c : Thread nD τ) ↦[(chunk outM c 1).view.set]{shr 31} (chunk outM c 1).view.rep (reduced m c 1))
        ∗ recvRes m K agS c 1 1
        ∗ owes (c : Thread nD τ) (O) (W)) -∗ Q r))
      ⊢ wp frame (wpE (defs₀ (F := F)) 𝒱₀ c none) Set.univ (k0_part79 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (k0_pay9 (halfVal m c 1)) (k0_pay10 (halfVal m c 1))) Q := by
  have hred : reduced m c 1 = k0_pay11 (k0_pay9 (halfVal m c 1)) (k0_pay10 (halfVal m c 1)) := by unfold reduced; rw [if_neg (by decide)]
  rw [fwd_zero c]
  unfold copyRes recvRes
  iintro ⟨Hout, ⟨#IS, TS, #RS, AS, #ID, TD, #RD⟩, ⟨%fd, Hdst⟩, HO, Hk⟩
  sl_exec_parts (disch := simp only [dev125_eq])
  sl_unfold_run_names
  ihave Hout := (Entails.of_eq (chunk_out_write_eq_rep (Ix := Unit) (Name := ℕ) (U := UU) (Lvl := ℕ) c c (1 : Fin 2) (k0_off3_eq c) (k0_off3_inb c) fullShare fo
    (k0_pay11 (k0_pay9 (halfVal m c 1)) (k0_pay10 (halfVal m c 1))))) $$ Hout
  rw [← hred]
  ihave Hsh := (Entails.of_eq (pointsTo_full_eq_shares (Ix := Unit) (Name := ℕ) (U := UU) (Lvl := ℕ) (ℓ := (chunk outM c 1).view.loc (c : Thread nD τ))
    (chunk outM c 1).view.set ((chunk outM c 1).view.rep (reduced m c 1)))) $$ Hout
  rw [ks_chain]
  icases Hsh with ⟨R0, R1, R2, R3, R4, R5, R6, R7, R8, R9, R10, R11, R12, R13, R14, R15, R16, R17, R18, R19, R20, R21, R22, R23, R24, R25, R26, R27, R28, R29, R30, R31⟩
  iapply (wp_send_ag m K c (1 : Fin 2) (1 : Fin 32) (by decide) fd W (O + tallyAt (dmaCell (fwd c 1) agR 1 1) () Nc) O rfl) $$ [R1 Hdst HO TS TD]
  · isplitr; · iexact IS
    isplitr; · iexact ID
    isplitl [R1]; · iexact R1
    isplitl [Hdst]; · iexact Hdst
    isplitl [HO]; · iexact HO
    isplitl [TS]; · iexact TS
    isplitr; · iexact RS
    isplitl [TD]; · iexact TD
    iexact RD
  iintro ⟨Ccred, HO⟩
  sl_step
  iapply Hk
  isplitl [R0]; · iexact R0
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [R18]; · iexact R18
  isplitl [R19]; · iexact R19
  isplitl [R20]; · iexact R20
  isplitl [R21]; · iexact R21
  isplitl [R22]; · iexact R22
  isplitl [R23]; · iexact R23
  isplitl [R24]; · iexact R24
  isplitl [R25]; · iexact R25
  isplitl [R26]; · iexact R26
  isplitl [R27]; · iexact R27
  isplitl [R28]; · iexact R28
  isplitl [R29]; · iexact R29
  isplitl [R30]; · iexact R30
  isplitl [R31]; · iexact R31
  isplitl [AS Ccred]
  · isplitr; · iexact IS
    isplitl [AS]; · iexact AS
    iexact Ccred
  iexact HO

/-- info: 'Cert.Kernel.AllReduce.part79_spec' depends on axioms: [propext, Classical.choice, Quot.sound] -/
#guard_msgs in #print axioms part79_spec

end Cert.Kernel.AllReduce

end
-- ==== Proof.Word.BodyPart121.lean ====
/-
  Half 0 of the gather buffer widened into the result.
-/
import proofs.«900438_g7700000000000439_dist_gemm_ar_m1024_k1024_n1024_f32_gelu_v7x_i32_1_alg».proof.Proof.Word.BodyTables
import proofs.«900438_g7700000000000439_dist_gemm_ar_m1024_k1024_n1024_f32_gelu_v7x_i32_1_alg».proof.Proof.Word.LoadPieces
import proofs.«900438_g7700000000000439_dist_gemm_ar_m1024_k1024_n1024_f32_gelu_v7x_i32_1_alg».proof.Proof.Word.Chains
import proofs.«900438_g7700000000000439_dist_gemm_ar_m1024_k1024_n1024_f32_gelu_v7x_i32_1_alg».proof.Proof.Word.BodyValues
noncomputable section
namespace Cert.Kernel.AllReduce
open Cert.Kernel Cert.Kernel.Gen Cert.Kernel.Regions
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

/-- The result's staging buffer after the first half has been widened into it. -/
def stg2Mid (c : Dev nD) (f2 : Buf (Elt F) ((c : Thread nD τ).loc cc0_stg2_0)) : Buf (Elt F) ((c : Thread nD τ).loc cc0_stg2_0) :=
  View.write (Elt F) ((Memref.whole cc0_stg2_0 : Memref sig .tc .vmem S1024x1024 .f32).access (Rect.unit (s := S1024x1024) ![0, 0] S1024x512.size inb_S1024x1024_S1024x512_0_0)) f2 (k0_pay12 (gathered m 0)) Finset.univ

attribute [local sl_rounds] duties_dma amount_dma expect_dma pay_agR in
set_option maxHeartbeats 8000000 in
/-- The last two receive waits of the gather phase for half 0, the read of the whole half of the gather buffer, and its widening into the result. -/
theorem part121_spec (c : Dev nD) (v2 : BitVec 32) (v3005 : BitVec 32) (c1_i32_3836 : BitVec 32) (f2 : Buf (Elt F) ((c : Thread nD τ).loc cc0_stg2_0)) (W : Waits sig Unit) (Q : (Σ' (v3033 : BitVec 32), BitVec 32) → sProp 𝕄) :
    iprop(recvRes m K agR c 0 30
      ∗ recvRes m K agR c 0 31
      ∗ levAts L lv
      ∗ ((chunk outM c 0).view.loc (c : Thread nD τ) ↦[(chunk outM c 0).view.set]{shr 0} (chunk outM c 0).view.rep (reduced m c 0))
      ∗ ((chunk outM (bwd c 1) 0).view.loc (c : Thread nD τ) ↦[(chunk outM (bwd c 1) 0).view.set]{fullShare} (chunk outM (bwd c 1) 0).view.rep (reduced m (bwd c 1) 0))
      ∗ ((chunk outM (bwd c 2) 0).view.loc (c : Thread nD τ) ↦[(chunk outM (bwd c 2) 0).view.set]{fullShare} (chunk outM (bwd c 2) 0).view.rep (reduced m (bwd c 2) 0))
      ∗ ((chunk outM (bwd c 3) 0).view.loc (c : Thread nD τ) ↦[(chunk outM (bwd c 3) 0).view.set]{fullShare} (chunk outM (bwd c 3) 0).view.rep (reduced m (bwd c 3) 0))
      ∗ ((chunk outM (bwd c 4) 0).view.loc (c : Thread nD τ) ↦[(chunk outM (bwd c 4) 0).view.set]{fullShare} (chunk outM (bwd c 4) 0).view.rep (reduced m (bwd c 4) 0))
      ∗ ((chunk outM (bwd c 5) 0).view.loc (c : Thread nD τ) ↦[(chunk outM (bwd c 5) 0).view.set]{fullShare} (chunk outM (bwd c 5) 0).view.rep (reduced m (bwd c 5) 0))
      ∗ ((chunk outM (bwd c 6) 0).view.loc (c : Thread nD τ) ↦[(chunk outM (bwd c 6) 0).view.set]{fullShare} (chunk outM (bwd c 6) 0).view.rep (reduced m (bwd c 6) 0))
      ∗ ((chunk outM (bwd c 7) 0).view.loc (c : Thread nD τ) ↦[(chunk outM (bwd c 7) 0).view.set]{fullShare} (chunk outM (bwd c 7) 0).view.rep (reduced m (bwd c 7) 0))
      ∗ ((chunk outM (bwd c 8) 0).view.loc (c : Thread nD τ) ↦[(chunk outM (bwd c 8) 0).view.set]{fullShare} (chunk outM (bwd c 8) 0).view.rep (reduced m (bwd c 8) 0))
      ∗ ((chunk outM (bwd c 9) 0).view.loc (c : Thread nD τ) ↦[(chunk outM (bwd c 9) 0).view.set]{fullShare} (chunk outM (bwd c 9) 0).view.rep (reduced m (bwd c 9) 0))
      ∗ ((chunk outM (bwd c 10) 0).view.loc (c : Thread nD τ) ↦[(chunk outM (bwd c 10) 0).view.set]{fullShare} (chunk outM (bwd c 10) 0).view.rep (reduced m (bwd c 10) 0))
      ∗ ((chunk outM (bwd c 11) 0).view.loc (c : Thread nD τ) ↦[(chunk outM (bwd c 11) 0).view.set]{fullShare} (chunk outM (bwd c 11) 0).view.rep (reduced m (bwd c 11) 0))
      ∗ ((chunk outM (bwd c 12) 0).view.loc (c : Thread nD τ) ↦[(chunk outM (bwd c 12) 0).view.set]{fullShare} (chunk outM (bwd c 12) 0).view.rep (reduced m (bwd c 12) 0))
      ∗ ((chunk outM (bwd c 13) 0).view.loc (c : Thread nD τ) ↦[(chunk outM (bwd c 13) 0).view.set]{fullShare} (chunk outM (bwd c 13) 0).view.rep (reduced m (bwd c 13) 0))
      ∗ ((chunk outM (bwd c 14) 0).view.loc (c : Thread nD τ) ↦[(chunk outM (bwd c 14) 0).view.set]{fullShare} (chunk outM (bwd c 14) 0).view.rep (reduced m (bwd c 14) 0))
      ∗ ((chunk outM (bwd c 15) 0).view.loc (c : Thread nD τ) ↦[(chunk outM (bwd c 15) 0).view.set]{fullShare} (chunk outM (bwd c 15) 0).view.rep (reduced m (bwd c 15) 0))
      ∗ ((chunk outM (bwd c 16) 0).view.loc (c : Thread nD τ) ↦[(chunk outM (bwd c 16) 0).view.set]{fullShare} (chunk outM (bwd c 16) 0).view.rep (reduced m (bwd c 16) 0))
      ∗ ((chunk outM (bwd c 17) 0).view.loc (c : Thread nD τ) ↦[(chunk outM (bwd c 17) 0).view.set]{fullShare} (chunk outM (bwd c 17) 0).view.rep (reduced m (bwd c 17) 0))
      ∗ ((chunk outM (bwd c 18) 0).view.loc (c : Thread nD τ) ↦[(chunk outM (bwd c 18) 0).view.set]{fullShare} (chunk outM (bwd c 18) 0).view.rep (reduced m (bwd c 18) 0))
      ∗ ((chunk outM (bwd c 19) 0).view.loc (c : Thread nD τ) ↦[(chunk outM (bwd c 19) 0).view.set]{fullShare} (chunk outM (bwd c 19) 0).view.rep (reduced m (bwd c 19) 0))
      ∗ ((chunk outM (bwd c 20) 0).view.loc (c : Thread nD τ) ↦[(chunk outM (bwd c 20) 0).view.set]{fullShare} (chunk outM (bwd c 20) 0).view.rep (reduced m (bwd c 20) 0))
      ∗ ((chunk outM (bwd c 21) 0).view.loc (c : Thread nD τ) ↦[(chunk outM (bwd c 21) 0).view.set]{fullShare} (chunk outM (bwd c 21) 0).view.rep (reduced m (bwd c 21) 0))
      ∗ ((chunk outM (bwd c 22) 0).view.loc (c : Thread nD τ) ↦[(chunk outM (bwd c 22) 0).view.set]{fullShare} (chunk outM (bwd c 22) 0).view.rep (reduced m (bwd c 22) 0))
      ∗ ((chunk outM (bwd c 23) 0).view.loc (c : Thread nD τ) ↦[(chunk outM (bwd c 23) 0).view.set]{fullShare} (chunk outM (bwd c 23) 0).view.rep (reduced m (bwd c 23) 0))
      ∗ ((chunk outM (bwd c 24) 0).view.loc (c : Thread nD τ) ↦[(chunk outM (bwd c 24) 0).view.set]{fullShare} (chunk outM (bwd c 24) 0).view.rep (reduced m (bwd c 24) 0))
      ∗ ((chunk outM (bwd c 25) 0).view.loc (c : Thread nD τ) ↦[(chunk outM (bwd c 25) 0).view.set]{fullShare} (chunk outM (bwd c 25) 0).view.rep (reduced m (bwd c 25) 0))
      ∗ ((chunk outM (bwd c 26) 0).view.loc (c : Thread nD τ) ↦[(chunk outM (bwd c 26) 0).view.set]{fullShare} (chunk outM (bwd c 26) 0).view.rep (reduced m (bwd c 26) 0))
      ∗ ((chunk outM (bwd c 27) 0).view.loc (c : Thread nD τ) ↦[(chunk outM (bwd c 27) 0).view.set]{fullShare} (chunk outM (bwd c 27) 0).view.rep (reduced m (bwd c 27) 0))
      ∗ ((chunk outM (bwd c 28) 0).view.loc (c : Thread nD τ) ↦[(chunk outM (bwd c 28) 0).view.set]{fullShare} (chunk outM (bwd c 28) 0).view.rep (reduced m (bwd c 28) 0))
      ∗ ((chunk outM (bwd c 29) 0).view.loc (c : Thread nD τ) ↦[(chunk outM (bwd c 29) 0).view.set]{fullShare} (chunk outM (bwd c 29) 0).view.rep (reduced m (bwd c 29) 0))
      ∗ ((Memref.whole cc0_stg2_0).view.loc (c : Thread nD τ) ↦{fullShare} f2)
      ∗ owes (c : Thread nD τ) (owedAfter c 155) W
      ∗ (∀ r, (((chunk outM c 0).view.loc (c : Thread nD τ) ↦[(chunk outM c 0).view.set]{shr 0} (chunk outM c 0).view.rep (reduced m c 0))
        ∗ ((chunk outM (bwd c 1) 0).view.loc (c : Thread nD τ) ↦[(chunk outM (bwd c 1) 0).view.set]{fullShare} (chunk outM (bwd c 1) 0).view.rep (reduced m (bwd c 1) 0))
        ∗ ((chunk outM (bwd c 2) 0).view.loc (c : Thread nD τ) ↦[(chunk outM (bwd c 2) 0).view.set]{fullShare} (chunk outM (bwd c 2) 0).view.rep (reduced m (bwd c 2) 0))
        ∗ ((chunk outM (bwd c 3) 0).view.loc (c : Thread nD τ) ↦[(chunk outM (bwd c 3) 0).view.set]{fullShare} (chunk outM (bwd c 3) 0).view.rep (reduced m (bwd c 3) 0))
        ∗ ((chunk outM (bwd c 4) 0).view.loc (c : Thread nD τ) ↦[(chunk outM (bwd c 4) 0).view.set]{fullShare} (chunk outM (bwd c 4) 0).view.rep (reduced m (bwd c 4) 0))
        ∗ ((chunk outM (bwd c 5) 0).view.loc (c : Thread nD τ) ↦[(chunk outM (bwd c 5) 0).view.set]{fullShare} (chunk outM (bwd c 5) 0).view.rep (reduced m (bwd c 5) 0))
        ∗ ((chunk outM (bwd c 6) 0).view.loc (c : Thread nD τ) ↦[(chunk outM (bwd c 6) 0).view.set]{fullShare} (chunk outM (bwd c 6) 0).view.rep (reduced m (bwd c 6) 0))
        ∗ ((chunk outM (bwd c 7) 0).view.loc (c : Thread nD τ) ↦[(chunk outM (bwd c 7) 0).view.set]{fullShare} (chunk outM (bwd c 7) 0).view.rep (reduced m (bwd c 7) 0))
        ∗ ((chunk outM (bwd c 8) 0).view.loc (c : Thread nD τ) ↦[(chunk outM (bwd c 8) 0).view.set]{fullShare} (chunk outM (bwd c 8) 0).view.rep (reduced m (bwd c 8) 0))
        ∗ ((chunk outM (bwd c 9) 0).view.loc (c : Thread nD τ) ↦[(chunk outM (bwd c 9) 0).view.set]{fullShare} (chunk outM (bwd c 9) 0).view.rep (reduced m (bwd c 9) 0))
        ∗ ((chunk outM (bwd c 10) 0).view.loc (c : Thread nD τ) ↦[(chunk outM (bwd c 10) 0).view.set]{fullShare} (chunk outM (bwd c 10) 0).view.rep (reduced m (bwd c 10) 0))
        ∗ ((chunk outM (bwd c 11) 0).view.loc (c : Thread nD τ) ↦[(chunk outM (bwd c 11) 0).view.set]{fullShare} (chunk outM (bwd c 11) 0).view.rep (reduced m (bwd c 11) 0))
        ∗ ((chunk outM (bwd c 12) 0).view.loc (c : Thread nD τ) ↦[(chunk outM (bwd c 12) 0).view.set]{fullShare} (chunk outM (bwd c 12) 0).view.rep (reduced m (bwd c 12) 0))
        ∗ ((chunk outM (bwd c 13) 0).view.loc (c : Thread nD τ) ↦[(chunk outM (bwd c 13) 0).view.set]{fullShare} (chunk outM (bwd c 13) 0).view.rep (reduced m (bwd c 13) 0))
        ∗ ((chunk outM (bwd c 14) 0).view.loc (c : Thread nD τ) ↦[(chunk outM (bwd c 14) 0).view.set]{fullShare} (chunk outM (bwd c 14) 0).view.rep (reduced m (bwd c 14) 0))
        ∗ ((chunk outM (bwd c 15) 0).view.loc (c : Thread nD τ) ↦[(chunk outM (bwd c 15) 0).view.set]{fullShare} (chunk outM (bwd c 15) 0).view.rep (reduced m (bwd c 15) 0))
        ∗ ((chunk outM (bwd c 16) 0).view.loc (c : Thread nD τ) ↦[(chunk outM (bwd c 16) 0).view.set]{fullShare} (chunk outM (bwd c 16) 0).view.rep (reduced m (bwd c 16) 0))
        ∗ ((chunk outM (bwd c 17) 0).view.loc (c : Thread nD τ) ↦[(chunk outM (bwd c 17) 0).view.set]{fullShare} (chunk outM (bwd c 17) 0).view.rep (reduced m (bwd c 17) 0))
        ∗ ((chunk outM (bwd c 18) 0).view.loc (c : Thread nD τ) ↦[(chunk outM (bwd c 18) 0).view.set]{fullShare} (chunk outM (bwd c 18) 0).view.rep (reduced m (bwd c 18) 0))
        ∗ ((chunk outM (bwd c 19) 0).view.loc (c : Thread nD τ) ↦[(chunk outM (bwd c 19) 0).view.set]{fullShare} (chunk outM (bwd c 19) 0).view.rep (reduced m (bwd c 19) 0))
        ∗ ((chunk outM (bwd c 20) 0).view.loc (c : Thread nD τ) ↦[(chunk outM (bwd c 20) 0).view.set]{fullShare} (chunk outM (bwd c 20) 0).view.rep (reduced m (bwd c 20) 0))
        ∗ ((chunk outM (bwd c 21) 0).view.loc (c : Thread nD τ) ↦[(chunk outM (bwd c 21) 0).view.set]{fullShare} (chunk outM (bwd c 21) 0).view.rep (reduced m (bwd c 21) 0))
        ∗ ((chunk outM (bwd c 22) 0).view.loc (c : Thread nD τ) ↦[(chunk outM (bwd c 22) 0).view.set]{fullShare} (chunk outM (bwd c 22) 0).view.rep (reduced m (bwd c 22) 0))
        ∗ ((chunk outM (bwd c 23) 0).view.loc (c : Thread nD τ) ↦[(chunk outM (bwd c 23) 0).view.set]{fullShare} (chunk outM (bwd c 23) 0).view.rep (reduced m (bwd c 23) 0))
        ∗ ((chunk outM (bwd c 24) 0).view.loc (c : Thread nD τ) ↦[(chunk outM (bwd c 24) 0).view.set]{fullShare} (chunk outM (bwd c 24) 0).view.rep (reduced m (bwd c 24) 0))
        ∗ ((chunk outM (bwd c 25) 0).view.loc (c : Thread nD τ) ↦[(chunk outM (bwd c 25) 0).view.set]{fullShare} (chunk outM (bwd c 25) 0).view.rep (reduced m (bwd c 25) 0))
        ∗ ((chunk outM (bwd c 26) 0).view.loc (c : Thread nD τ) ↦[(chunk outM (bwd c 26) 0).view.set]{fullShare} (chunk outM (bwd c 26) 0).view.rep (reduced m (bwd c 26) 0))
        ∗ ((chunk outM (bwd c 27) 0).view.loc (c : Thread nD τ) ↦[(chunk outM (bwd c 27) 0).view.set]{fullShare} (chunk outM (bwd c 27) 0).view.rep (reduced m (bwd c 27) 0))
        ∗ ((chunk outM (bwd c 28) 0).view.loc (c : Thread nD τ) ↦[(chunk outM (bwd c 28) 0).view.set]{fullShare} (chunk outM (bwd c 28) 0).view.rep (reduced m (bwd c 28) 0))
        ∗ ((chunk outM (bwd c 29) 0).view.loc (c : Thread nD τ) ↦[(chunk outM (bwd c 29) 0).view.set]{fullShare} (chunk outM (bwd c 29) 0).view.rep (reduced m (bwd c 29) 0))
        ∗ ((chunk outM (bwd c 30) 0).view.loc (c : Thread nD τ) ↦[(chunk outM (bwd c 30) 0).view.set]{fullShare} (chunk outM (bwd c 30) 0).view.rep (reduced m (bwd c 30) 0))
        ∗ ((chunk outM (bwd c 31) 0).view.loc (c : Thread nD τ) ↦[(chunk outM (bwd c 31) 0).view.set]{fullShare} (chunk outM (bwd c 31) 0).view.rep (reduced m (bwd c 31) 0))
        ∗ (cellInv ER (sched m) (K (dmaCell c agR 0 30)) (dmaCell c agR 0 30) ∗ atPos ER (dmaCell c agR 0 30) 1 ∅ 0)
        ∗ (cellInv ER (sched m) (K (dmaCell c agR 0 31)) (dmaCell c agR 0 31) ∗ atPos ER (dmaCell c agR 0 31) 1 ∅ 0)
        ∗ ((Memref.whole cc0_stg2_0).view.loc (c : Thread nD τ) ↦{fullShare} stg2Mid m c f2)
        ∗ owes (c : Thread nD τ) (owedAfter c 155) (insert (SemLoc.dma (semAt (arr agR) 0 31), ()) (insert (SemLoc.dma (semAt (arr agR) 0 30), ()) (W)))) -∗ Q r))
      ⊢ wp frame (wpE (defs₀ (F := F)) 𝒱₀ c none) Set.univ (k0_part121 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3005 c1_i32_3836) Q := by
  unfold recvRes stg2Mid gathered
  iintro ⟨⟨#I30, A30, C30⟩, ⟨#I31, A31, C31⟩, #Hlev, Hown, G1, G2, G3, G4, G5, G6, G7, G8, G9, G10, G11, G12, G13, G14, G15, G16, G17, G18, G19, G20, G21, G22, G23, G24, G25, G26, G27, G28, G29, H2, HO, Hk⟩
  have hmw30 := mayWait_end (F := F) c (.dma (semAt (arr agR) 0 30))
  have hmw31 := mayWait_end (F := F) c (.dma (semAt (arr agR) 0 31))
  sl_exec_parts
  iapply (wp_load_widen 𝒱₀ c none Set.univ 0 rfl (fun d => reduced m d 0)) $$ [Hown G1 G2 G3 G4 G5 G6 G7 G8 G9 G10 G11 G12 G13 G14 G15 G16 G17 G18 G19 G20 G21 G22 G23 G24 G25 G26 G27 G28 G29 A30_pay1 A31_pay1]
  · isplitl [Hown]; · iexact Hown
    rw [ks_chain]
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    isplitl [G18]; · iexact G18
    isplitl [G19]; · iexact G19
    isplitl [G20]; · iexact G20
    isplitl [G21]; · iexact G21
    isplitl [G22]; · iexact G22
    isplitl [G23]; · iexact G23
    isplitl [G24]; · iexact G24
    isplitl [G25]; · iexact G25
    isplitl [G26]; · iexact G26
    isplitl [G27]; · iexact G27
    isplitl [G28]; · iexact G28
    isplitl [G29]; · iexact G29
    isplitl [A30_pay1]; · iexact A30_pay1
    iexact A31_pay1
  iintro ⟨Hown, Gall⟩
  sl_exec_parts
  sl_step
  sl_unfold_run_names
  ihave Gall := (Entails.of_eq (ks_chain _)) $$ Gall
  icases Gall with ⟨S1, S2, S3, S4, S5, S6, S7, S8, S9, S10, S11, S12, S13, S14, S15, S16, S17, S18, S19, S20, S21, S22, S23, S24, S25, S26, S27, S28, S29, S30, S31⟩
  iapply Hk
  isplitl [Hown]; · iexact Hown
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [A30]; · (isplitr; · iexact I30); iexact A30
  isplitl [A31]; · (isplitr; · iexact I31); iexact A31
  isplitl [H2]; · iexact H2
  iexact HO

end Cert.Kernel.AllReduce

end
-- ==== Proof.Word.ResultStores.lean ====
/-
  The result's staging buffer after its two half stores is the result array: the two 1024 x 512 blocks stored side by side
  cover it, so what it held before is gone.
-/
import proofs.«900438_g7700000000000439_dist_gemm_ar_m1024_k1024_n1024_f32_gelu_v7x_i32_1_alg».proof.Proof.Word.Protocol
import Idealize.ShloMosaic.Lib.Writes
import Idealize.ShloMosaic.Lib.ValueIdx

noncomputable section

namespace Cert.Kernel.Regions

open Cert.Kernel Cert.Kernel.Gen Cert.Kernel.AllReduce
open Idealize.ShloMosaic
open Idealize.ShloMosaic.TcCoe
open Idealize.ShloMosaic.ValueIdx (ix2 eq_ix2)

/-- The result's staging buffer. -/
abbrev stgM : Memref sig .tc .vmem S1024x1024 .f32 := Memref.whole cc0_stg2_0

section
variable {Val : EltTy → Type}

/-- Two 1024 x 512 blocks of f32 side by side. -/
def sideBySide32 (P0 P1 : S1024x512.Idx → Val .f32) : S1024x1024.Idx → Val .f32 := fun i =>
  if hlt : (i 1).val < 512 then P0 (ix2 (i 0) ⟨(i 1).val, hlt⟩)
  else P1 (ix2 (i 0) ⟨(i 1).val - 512, by have h1 : (i 1).val < 1024 := (i 1).isLt; omega⟩)

theorem left_piece32 (P0 P1 : S1024x512.Idx → Val .f32) (inb0 : ∀ a, (![0, 0] : Fin 2 → Nat) a + S1024x512.size a ≤ S1024x1024.size a)
    (x : (Rect.unit (s := S1024x1024) ![0, 0] S1024x512.size inb0).shape.Idx) :
    P0 x = sideBySide32 P0 P1 ((Rect.unit (s := S1024x1024) ![0, 0] S1024x512.size inb0).emb x) := by
  have hx1 : (x 1).val < 512 := (x 1).isLt
  have hlt : (((Rect.unit (s := S1024x1024) ![0, 0] S1024x512.size inb0).emb x) 1).val < 512 := by
    show 0 + 1 * (x 1).val < 512; omega
  unfold sideBySide32
  rw [dif_pos hlt]
  refine congrArg P0 (funext fun a => Fin.ext ?_)
  match a with
  | ⟨0, _⟩ => show (x 0).val = 0 + 1 * (x 0).val; omega
  | ⟨1, _⟩ => show (x 1).val = 0 + 1 * (x 1).val; omega

theorem right_piece32 (P0 P1 : S1024x512.Idx → Val .f32) (inb1 : ∀ a, (![0, 512] : Fin 2 → Nat) a + S1024x512.size a ≤ S1024x1024.size a)
    (x : (Rect.unit (s := S1024x1024) ![0, 512] S1024x512.size inb1).shape.Idx) :
    P1 x = sideBySide32 P0 P1 ((Rect.unit (s := S1024x1024) ![0, 512] S1024x512.size inb1).emb x) := by
  have hx1 : (x 1).val < 512 := (x 1).isLt
  have hge : ¬ (((Rect.unit (s := S1024x1024) ![0, 512] S1024x512.size inb1).emb x) 1).val < 512 := by
    show ¬ (512 + 1 * (x 1).val < 512); omega
  unfold sideBySide32
  rw [dif_neg hge]
  refine congrArg P1 (funext fun a => Fin.ext ?_)
  match a with
  | ⟨0, _⟩ => show (x 0).val = 0 + 1 * (x 0).val; omega
  | ⟨1, _⟩ => show (x 1).val = 512 + 1 * (x 1).val - 512; omega

/-- The staging buffer after the two half stores (the later store first in the list) holds the blocks side by side. -/
theorem stg_writes_both (f : stgM.view.ty.Contents Val) (P0 P1 : S1024x512.Idx → Val .f32)
    (inb0 : ∀ a, (![0, 0] : Fin 2 → Nat) a + S1024x512.size a ≤ S1024x1024.size a)
    (inb1 : ∀ a, (![0, 512] : Fin 2 → Nat) a + S1024x512.size a ≤ S1024x1024.size a) :
    stgM.view.writes Val f
        [⟨Rect.unit (s := S1024x1024) ![0, 512] S1024x512.size inb1, P1⟩, ⟨Rect.unit (s := S1024x1024) ![0, 0] S1024x512.size inb0, P0⟩]
      = sideBySide32 P0 P1 := by
  funext y
  refine (congrFun (View.read_whole (Val := Val) cc0_stg2_0
    (stgM.view.writes Val f
      [⟨Rect.unit (s := S1024x1024) ![0, 512] S1024x512.size inb1, P1⟩, ⟨Rect.unit (s := S1024x1024) ![0, 0] S1024x512.size inb0, P0⟩])) y).symm.trans ?_
  refine View.read_writes_apply_of_pieces (v := stgM.view) (Val := Val) f (sideBySide32 P0 P1)
    [⟨Rect.unit (s := S1024x1024) ![0, 512] S1024x512.size inb1, P1⟩, ⟨Rect.unit (s := S1024x1024) ![0, 0] S1024x512.size inb0, P0⟩] ?_ y ?_
  · intro p hp x
    rcases List.mem_cons.mp hp with rfl | hp
    · exact right_piece32 P0 P1 inb1 x
    · obtain rfl : p = ⟨Rect.unit (s := S1024x1024) ![0, 0] S1024x512.size inb0, P0⟩ := List.mem_singleton.mp hp
      exact left_piece32 P0 P1 inb0 x
  · have hy0 : (y 0).val < 1024 := (y 0).isLt
    have hy1 : (y 1).val < 1024 := (y 1).isLt
    by_cases hh : (y 1).val < 512
    · refine ⟨⟨Rect.unit (s := S1024x1024) ![0, 0] S1024x512.size inb0, P0⟩, List.mem_cons_of_mem _ (List.mem_singleton.mpr rfl), ?_⟩
      show y ∈ (Rect.unit (s := S1024x1024) ![0, 0] S1024x512.size inb0).set
      rw [Rect.mem_set_unit]
      intro a
      match a with
      | ⟨0, _⟩ => show 0 ≤ (y 0).val ∧ (y 0).val < 0 + 1024; omega
      | ⟨1, _⟩ => show 0 ≤ (y 1).val ∧ (y 1).val < 0 + 512; omega
    · refine ⟨⟨Rect.unit (s := S1024x1024) ![0, 512] S1024x512.size inb1, P1⟩, List.mem_cons_self, ?_⟩
      show y ∈ (Rect.unit (s := S1024x1024) ![0, 512] S1024x512.size inb1).set
      rw [Rect.mem_set_unit]
      intro a
      match a with
      | ⟨0, _⟩ => show 0 ≤ (y 0).val ∧ (y 0).val < 0 + 1024; omega
      | ⟨1, _⟩ => show 512 ≤ (y 1).val ∧ (y 1).val < 512 + 512; omega

/-- The same as two nested whole writes through the two rectangles. -/
theorem stg_write_write (f : stgM.view.ty.Contents Val) (P0 P1 : S1024x512.Idx → Val .f32)
    (inb0 : ∀ a, (![0, 0] : Fin 2 → Nat) a + S1024x512.size a ≤ S1024x1024.size a)
    (inb1 : ∀ a, (![0, 512] : Fin 2 → Nat) a + S1024x512.size a ≤ S1024x1024.size a) :
    (stgM.access (Rect.unit (s := S1024x1024) ![0, 512] S1024x512.size inb1)).write Val
        ((stgM.access (Rect.unit (s := S1024x1024) ![0, 0] S1024x512.size inb0)).write Val f P0 Finset.univ) P1 Finset.univ
      = sideBySide32 P0 P1 :=
  stg_writes_both f P0 P1 inb0 inb1

end

section
variable {F : FTy → Type} [FloatOps F]

/-- The two halves widened, side by side, are the result array. -/
theorem sideBySide32_result (m : (ℓ : Loc nD τ sig) → Buf (Elt F) ℓ) :
    sideBySide32 (Val := Elt F) (k0_pay12 (gathered m 0)) (k0_pay13 (gathered m 1)) = result m := rfl

/-- THE RESULT'S STAGING BUFFER after the two half stores is the result array (list form, as the stores leave it). -/
theorem result_writes (m : (ℓ : Loc nD τ sig) → Buf (Elt F) ℓ) (f2 : stgM.view.ty.Contents (Elt F))
    (inb0 : ∀ a, (![0, 0] : Fin 2 → Nat) a + S1024x512.size a ≤ S1024x1024.size a)
    (inb1 : ∀ a, (![0, 512] : Fin 2 → Nat) a + S1024x512.size a ≤ S1024x1024.size a) :
    stgM.view.writes (Elt F) f2
        [⟨Rect.unit (s := S1024x1024) ![0, 512] S1024x512.size inb1, k0_pay13 (gathered m 1)⟩,
          ⟨Rect.unit (s := S1024x1024) ![0, 0] S1024x512.size inb0, k0_pay12 (gathered m 0)⟩]
      = result m :=
  (stg_writes_both f2 _ _ inb0 inb1).trans (sideBySide32_result m)

/-- … and in the form of two nested writes. -/
theorem result_stores (m : (ℓ : Loc nD τ sig) → Buf (Elt F) ℓ) (f2 : stgM.view.ty.Contents (Elt F))
    (inb0 : ∀ a, (![0, 0] : Fin 2 → Nat) a + S1024x512.size a ≤ S1024x1024.size a)
    (inb1 : ∀ a, (![0, 512] : Fin 2 → Nat) a + S1024x512.size a ≤ S1024x1024.size a) :
    (stgM.access (Rect.unit (s := S1024x1024) ![0, 512] S1024x512.size inb1)).write (Elt F)
        ((stgM.access (Rect.unit (s := S1024x1024) ![0, 0] S1024x512.size inb0)).write (Elt F) f2 (k0_pay12 (gathered m 0)) Finset.univ)
        (k0_pay13 (gathered m 1)) Finset.univ
      = result m :=
  (stg_write_write f2 _ _ inb0 inb1).trans (sideBySide32_result m)

end

/-- info: 'Cert.Kernel.Regions.result_stores' depends on axioms: [propext, Classical.choice, Quot.sound] -/
#guard_msgs in #print axioms result_stores

/-- info: 'Cert.Kernel.Regions.result_writes' depends on axioms: [propext, Classical.choice, Quot.sound] -/
#guard_msgs in #print axioms result_writes

end Cert.Kernel.Regions

end
-- ==== Proof.Word.BodyPart134.lean ====
/-
  Half 1 of the gather buffer widened into the result: the result is complete.
-/
import proofs.«900438_g7700000000000439_dist_gemm_ar_m1024_k1024_n1024_f32_gelu_v7x_i32_1_alg».proof.Proof.Word.BodyPart121
import proofs.«900438_g7700000000000439_dist_gemm_ar_m1024_k1024_n1024_f32_gelu_v7x_i32_1_alg».proof.Proof.Word.ResultStores
noncomputable section
namespace Cert.Kernel.AllReduce
open Cert.Kernel Cert.Kernel.Gen Cert.Kernel.Regions
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ) (K : GSem nD τ sig → ℕ)

attribute [local sl_rounds] duties_dma amount_dma expect_dma pay_agR pay_agS in
set_option maxHeartbeats 8000000 in
/-- The last two receive waits of the gather phase for half 1, the read of the whole half of the gather buffer, and its widening into the result; then the first send wait of the gather phase. -/
theorem part134_spec (c : Dev nD) (v2 : BitVec 32) (v3349 : BitVec 32) (f2 : Buf (Elt F) ((c : Thread nD τ).loc cc0_stg2_0)) (W : Waits sig Unit) (Q : (PUnit) → sProp 𝕄) :
    iprop(recvRes m K agR c 1 30
      ∗ recvRes m K agR c 1 31
      ∗ recvRes m K agS c 0 1
      ∗ levAts L lv
      ∗ ((chunk outM c 1).view.loc (c : Thread nD τ) ↦[(chunk outM c 1).view.set]{shr 0} (chunk outM c 1).view.rep (reduced m c 1))
      ∗ ((chunk outM (bwd c 1) 1).view.loc (c : Thread nD τ) ↦[(chunk outM (bwd c 1) 1).view.set]{fullShare} (chunk outM (bwd c 1) 1).view.rep (reduced m (bwd c 1) 1))
      ∗ ((chunk outM (bwd c 2) 1).view.loc (c : Thread nD τ) ↦[(chunk outM (bwd c 2) 1).view.set]{fullShare} (chunk outM (bwd c 2) 1).view.rep (reduced m (bwd c 2) 1))
      ∗ ((chunk outM (bwd c 3) 1).view.loc (c : Thread nD τ) ↦[(chunk outM (bwd c 3) 1).view.set]{fullShare} (chunk outM (bwd c 3) 1).view.rep (reduced m (bwd c 3) 1))
      ∗ ((chunk outM (bwd c 4) 1).view.loc (c : Thread nD τ) ↦[(chunk outM (bwd c 4) 1).view.set]{fullShare} (chunk outM (bwd c 4) 1).view.rep (reduced m (bwd c 4) 1))
      ∗ ((chunk outM (bwd c 5) 1).view.loc (c : Thread nD τ) ↦[(chunk outM (bwd c 5) 1).view.set]{fullShare} (chunk outM (bwd c 5) 1).view.rep (reduced m (bwd c 5) 1))
      ∗ ((chunk outM (bwd c 6) 1).view.loc (c : Thread nD τ) ↦[(chunk outM (bwd c 6) 1).view.set]{fullShare} (chunk outM (bwd c 6) 1).view.rep (reduced m (bwd c 6) 1))
      ∗ ((chunk outM (bwd c 7) 1).view.loc (c : Thread nD τ) ↦[(chunk outM (bwd c 7) 1).view.set]{fullShare} (chunk outM (bwd c 7) 1).view.rep (reduced m (bwd c 7) 1))
      ∗ ((chunk outM (bwd c 8) 1).view.loc (c : Thread nD τ) ↦[(chunk outM (bwd c 8) 1).view.set]{fullShare} (chunk outM (bwd c 8) 1).view.rep (reduced m (bwd c 8) 1))
      ∗ ((chunk outM (bwd c 9) 1).view.loc (c : Thread nD τ) ↦[(chunk outM (bwd c 9) 1).view.set]{fullShare} (chunk outM (bwd c 9) 1).view.rep (reduced m (bwd c 9) 1))
      ∗ ((chunk outM (bwd c 10) 1).view.loc (c : Thread nD τ) ↦[(chunk outM (bwd c 10) 1).view.set]{fullShare} (chunk outM (bwd c 10) 1).view.rep (reduced m (bwd c 10) 1))
      ∗ ((chunk outM (bwd c 11) 1).view.loc (c : Thread nD τ) ↦[(chunk outM (bwd c 11) 1).view.set]{fullShare} (chunk outM (bwd c 11) 1).view.rep (reduced m (bwd c 11) 1))
      ∗ ((chunk outM (bwd c 12) 1).view.loc (c : Thread nD τ) ↦[(chunk outM (bwd c 12) 1).view.set]{fullShare} (chunk outM (bwd c 12) 1).view.rep (reduced m (bwd c 12) 1))
      ∗ ((chunk outM (bwd c 13) 1).view.loc (c : Thread nD τ) ↦[(chunk outM (bwd c 13) 1).view.set]{fullShare} (chunk outM (bwd c 13) 1).view.rep (reduced m (bwd c 13) 1))
      ∗ ((chunk outM (bwd c 14) 1).view.loc (c : Thread nD τ) ↦[(chunk outM (bwd c 14) 1).view.set]{fullShare} (chunk outM (bwd c 14) 1).view.rep (reduced m (bwd c 14) 1))
      ∗ ((chunk outM (bwd c 15) 1).view.loc (c : Thread nD τ) ↦[(chunk outM (bwd c 15) 1).view.set]{fullShare} (chunk outM (bwd c 15) 1).view.rep (reduced m (bwd c 15) 1))
      ∗ ((chunk outM (bwd c 16) 1).view.loc (c : Thread nD τ) ↦[(chunk outM (bwd c 16) 1).view.set]{fullShare} (chunk outM (bwd c 16) 1).view.rep (reduced m (bwd c 16) 1))
      ∗ ((chunk outM (bwd c 17) 1).view.loc (c : Thread nD τ) ↦[(chunk outM (bwd c 17) 1).view.set]{fullShare} (chunk outM (bwd c 17) 1).view.rep (reduced m (bwd c 17) 1))
      ∗ ((chunk outM (bwd c 18) 1).view.loc (c : Thread nD τ) ↦[(chunk outM (bwd c 18) 1).view.set]{fullShare} (chunk outM (bwd c 18) 1).view.rep (reduced m (bwd c 18) 1))
      ∗ ((chunk outM (bwd c 19) 1).view.loc (c : Thread nD τ) ↦[(chunk outM (bwd c 19) 1).view.set]{fullShare} (chunk outM (bwd c 19) 1).view.rep (reduced m (bwd c 19) 1))
      ∗ ((chunk outM (bwd c 20) 1).view.loc (c : Thread nD τ) ↦[(chunk outM (bwd c 20) 1).view.set]{fullShare} (chunk outM (bwd c 20) 1).view.rep (reduced m (bwd c 20) 1))
      ∗ ((chunk outM (bwd c 21) 1).view.loc (c : Thread nD τ) ↦[(chunk outM (bwd c 21) 1).view.set]{fullShare} (chunk outM (bwd c 21) 1).view.rep (reduced m (bwd c 21) 1))
      ∗ ((chunk outM (bwd c 22) 1).view.loc (c : Thread nD τ) ↦[(chunk outM (bwd c 22) 1).view.set]{fullShare} (chunk outM (bwd c 22) 1).view.rep (reduced m (bwd c 22) 1))
      ∗ ((chunk outM (bwd c 23) 1).view.loc (c : Thread nD τ) ↦[(chunk outM (bwd c 23) 1).view.set]{fullShare} (chunk outM (bwd c 23) 1).view.rep (reduced m (bwd c 23) 1))
      ∗ ((chunk outM (bwd c 24) 1).view.loc (c : Thread nD τ) ↦[(chunk outM (bwd c 24) 1).view.set]{fullShare} (chunk outM (bwd c 24) 1).view.rep (reduced m (bwd c 24) 1))
      ∗ ((chunk outM (bwd c 25) 1).view.loc (c : Thread nD τ) ↦[(chunk outM (bwd c 25) 1).view.set]{fullShare} (chunk outM (bwd c 25) 1).view.rep (reduced m (bwd c 25) 1))
      ∗ ((chunk outM (bwd c 26) 1).view.loc (c : Thread nD τ) ↦[(chunk outM (bwd c 26) 1).view.set]{fullShare} (chunk outM (bwd c 26) 1).view.rep (reduced m (bwd c 26) 1))
      ∗ ((chunk outM (bwd c 27) 1).view.loc (c : Thread nD τ) ↦[(chunk outM (bwd c 27) 1).view.set]{fullShare} (chunk outM (bwd c 27) 1).view.rep (reduced m (bwd c 27) 1))
      ∗ ((chunk outM (bwd c 28) 1).view.loc (c : Thread nD τ) ↦[(chunk outM (bwd c 28) 1).view.set]{fullShare} (chunk outM (bwd c 28) 1).view.rep (reduced m (bwd c 28) 1))
      ∗ ((chunk outM (bwd c 29) 1).view.loc (c : Thread nD τ) ↦[(chunk outM (bwd c 29) 1).view.set]{fullShare} (chunk outM (bwd c 29) 1).view.rep (reduced m (bwd c 29) 1))
      ∗ ((Memref.whole cc0_stg2_0).view.loc (c : Thread nD τ) ↦{fullShare} stg2Mid m c f2)
      ∗ owes (c : Thread nD τ) (owedAfter c 155) W
      ∗ (∀ r, (((chunk outM c 1).view.loc (c : Thread nD τ) ↦[(chunk outM c 1).view.set]{shr 0} (chunk outM c 1).view.rep (reduced m c 1))
        ∗ ((chunk outM (bwd c 1) 1).view.loc (c : Thread nD τ) ↦[(chunk outM (bwd c 1) 1).view.set]{fullShare} (chunk outM (bwd c 1) 1).view.rep (reduced m (bwd c 1) 1))
        ∗ ((chunk outM (bwd c 2) 1).view.loc (c : Thread nD τ) ↦[(chunk outM (bwd c 2) 1).view.set]{fullShare} (chunk outM (bwd c 2) 1).view.rep (reduced m (bwd c 2) 1))
        ∗ ((chunk outM (bwd c 3) 1).view.loc (c : Thread nD τ) ↦[(chunk outM (bwd c 3) 1).view.set]{fullShare} (chunk outM (bwd c 3) 1).view.rep (reduced m (bwd c 3) 1))
        ∗ ((chunk outM (bwd c 4) 1).view.loc (c : Thread nD τ) ↦[(chunk outM (bwd c 4) 1).view.set]{fullShare} (chunk outM (bwd c 4) 1).view.rep (reduced m (bwd c 4) 1))
        ∗ ((chunk outM (bwd c 5) 1).view.loc (c : Thread nD τ) ↦[(chunk outM (bwd c 5) 1).view.set]{fullShare} (chunk outM (bwd c 5) 1).view.rep (reduced m (bwd c 5) 1))
        ∗ ((chunk outM (bwd c 6) 1).view.loc (c : Thread nD τ) ↦[(chunk outM (bwd c 6) 1).view.set]{fullShare} (chunk outM (bwd c 6) 1).view.rep (reduced m (bwd c 6) 1))
        ∗ ((chunk outM (bwd c 7) 1).view.loc (c : Thread nD τ) ↦[(chunk outM (bwd c 7) 1).view.set]{fullShare} (chunk outM (bwd c 7) 1).view.rep (reduced m (bwd c 7) 1))
        ∗ ((chunk outM (bwd c 8) 1).view.loc (c : Thread nD τ) ↦[(chunk outM (bwd c 8) 1).view.set]{fullShare} (chunk outM (bwd c 8) 1).view.rep (reduced m (bwd c 8) 1))
        ∗ ((chunk outM (bwd c 9) 1).view.loc (c : Thread nD τ) ↦[(chunk outM (bwd c 9) 1).view.set]{fullShare} (chunk outM (bwd c 9) 1).view.rep (reduced m (bwd c 9) 1))
        ∗ ((chunk outM (bwd c 10) 1).view.loc (c : Thread nD τ) ↦[(chunk outM (bwd c 10) 1).view.set]{fullShare} (chunk outM (bwd c 10) 1).view.rep (reduced m (bwd c 10) 1))
        ∗ ((chunk outM (bwd c 11) 1).view.loc (c : Thread nD τ) ↦[(chunk outM (bwd c 11) 1).view.set]{fullShare} (chunk outM (bwd c 11) 1).view.rep (reduced m (bwd c 11) 1))
        ∗ ((chunk outM (bwd c 12) 1).view.loc (c : Thread nD τ) ↦[(chunk outM (bwd c 12) 1).view.set]{fullShare} (chunk outM (bwd c 12) 1).view.rep (reduced m (bwd c 12) 1))
        ∗ ((chunk outM (bwd c 13) 1).view.loc (c : Thread nD τ) ↦[(chunk outM (bwd c 13) 1).view.set]{fullShare} (chunk outM (bwd c 13) 1).view.rep (reduced m (bwd c 13) 1))
        ∗ ((chunk outM (bwd c 14) 1).view.loc (c : Thread nD τ) ↦[(chunk outM (bwd c 14) 1).view.set]{fullShare} (chunk outM (bwd c 14) 1).view.rep (reduced m (bwd c 14) 1))
        ∗ ((chunk outM (bwd c 15) 1).view.loc (c : Thread nD τ) ↦[(chunk outM (bwd c 15) 1).view.set]{fullShare} (chunk outM (bwd c 15) 1).view.rep (reduced m (bwd c 15) 1))
        ∗ ((chunk outM (bwd c 16) 1).view.loc (c : Thread nD τ) ↦[(chunk outM (bwd c 16) 1).view.set]{fullShare} (chunk outM (bwd c 16) 1).view.rep (reduced m (bwd c 16) 1))
        ∗ ((chunk outM (bwd c 17) 1).view.loc (c : Thread nD τ) ↦[(chunk outM (bwd c 17) 1).view.set]{fullShare} (chunk outM (bwd c 17) 1).view.rep (reduced m (bwd c 17) 1))
        ∗ ((chunk outM (bwd c 18) 1).view.loc (c : Thread nD τ) ↦[(chunk outM (bwd c 18) 1).view.set]{fullShare} (chunk outM (bwd c 18) 1).view.rep (reduced m (bwd c 18) 1))
        ∗ ((chunk outM (bwd c 19) 1).view.loc (c : Thread nD τ) ↦[(chunk outM (bwd c 19) 1).view.set]{fullShare} (chunk outM (bwd c 19) 1).view.rep (reduced m (bwd c 19) 1))
        ∗ ((chunk outM (bwd c 20) 1).view.loc (c : Thread nD τ) ↦[(chunk outM (bwd c 20) 1).view.set]{fullShare} (chunk outM (bwd c 20) 1).view.rep (reduced m (bwd c 20) 1))
        ∗ ((chunk outM (bwd c 21) 1).view.loc (c : Thread nD τ) ↦[(chunk outM (bwd c 21) 1).view.set]{fullShare} (chunk outM (bwd c 21) 1).view.rep (reduced m (bwd c 21) 1))
        ∗ ((chunk outM (bwd c 22) 1).view.loc (c : Thread nD τ) ↦[(chunk outM (bwd c 22) 1).view.set]{fullShare} (chunk outM (bwd c 22) 1).view.rep (reduced m (bwd c 22) 1))
        ∗ ((chunk outM (bwd c 23) 1).view.loc (c : Thread nD τ) ↦[(chunk outM (bwd c 23) 1).view.set]{fullShare} (chunk outM (bwd c 23) 1).view.rep (reduced m (bwd c 23) 1))
        ∗ ((chunk outM (bwd c 24) 1).view.loc (c : Thread nD τ) ↦[(chunk outM (bwd c 24) 1).view.set]{fullShare} (chunk outM (bwd c 24) 1).view.rep (reduced m (bwd c 24) 1))
        ∗ ((chunk outM (bwd c 25) 1).view.loc (c : Thread nD τ) ↦[(chunk outM (bwd c 25) 1).view.set]{fullShare} (chunk outM (bwd c 25) 1).view.rep (reduced m (bwd c 25) 1))
        ∗ ((chunk outM (bwd c 26) 1).view.loc (c : Thread nD τ) ↦[(chunk outM (bwd c 26) 1).view.set]{fullShare} (chunk outM (bwd c 26) 1).view.rep (reduced m (bwd c 26) 1))
        ∗ ((chunk outM (bwd c 27) 1).view.loc (c : Thread nD τ) ↦[(chunk outM (bwd c 27) 1).view.set]{fullShare} (chunk outM (bwd c 27) 1).view.rep (reduced m (bwd c 27) 1))
        ∗ ((chunk outM (bwd c 28) 1).view.loc (c : Thread nD τ) ↦[(chunk outM (bwd c 28) 1).view.set]{fullShare} (chunk outM (bwd c 28) 1).view.rep (reduced m (bwd c 28) 1))
        ∗ ((chunk outM (bwd c 29) 1).view.loc (c : Thread nD τ) ↦[(chunk outM (bwd c 29) 1).view.set]{fullShare} (chunk outM (bwd c 29) 1).view.rep (reduced m (bwd c 29) 1))
        ∗ ((chunk outM (bwd c 30) 1).view.loc (c : Thread nD τ) ↦[(chunk outM (bwd c 30) 1).view.set]{fullShare} (chunk outM (bwd c 30) 1).view.rep (reduced m (bwd c 30) 1))
        ∗ ((chunk outM (bwd c 31) 1).view.loc (c : Thread nD τ) ↦[(chunk outM (bwd c 31) 1).view.set]{fullShare} (chunk outM (bwd c 31) 1).view.rep (reduced m (bwd c 31) 1))
        ∗ (cellInv ER (sched m) (K (dmaCell c agR 1 30)) (dmaCell c agR 1 30) ∗ atPos ER (dmaCell c agR 1 30) 1 ∅ 0)
        ∗ (cellInv ER (sched m) (K (dmaCell c agR 1 31)) (dmaCell c agR 1 31) ∗ atPos ER (dmaCell c agR 1 31) 1 ∅ 0)
        ∗ ((Memref.whole cc0_stg2_0).view.loc (c : Thread nD τ) ↦{fullShare} result m)
        ∗ ((chunk outM c 0).view.loc (c : Thread nD τ) ↦[(chunk outM c 0).view.set]{shr 1} (chunk outM c 0).view.rep (reduced m c 0))
        ∗ (cellInv ER (sched m) (K (dmaCell c agS 0 1)) (dmaCell c agS 0 1) ∗ atPos ER (dmaCell c agS 0 1) 1 ∅ 0)
        ∗ owes (c : Thread nD τ) (owedAfter c 155) (insert (SemLoc.dma (semAt (arr agS) 0 1), ()) (insert (SemLoc.dma (semAt (arr agR) 1 31), ()) (insert (SemLoc.dma (semAt (arr agR) 1 30), ()) (W))))) -∗ Q r))
      ⊢ wp frame (wpE (defs₀ (F := F)) 𝒱₀ c none) Set.univ (k0_part134 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3349) Q := by
  unfold recvRes stg2Mid gathered
  iintro ⟨⟨#I30, A30, C30⟩, ⟨#I31, A31, C31⟩, ⟨#IX, AX, CX⟩, #Hlev, Hown, G1, G2, G3, G4, G5, G6, G7, G8, G9, G10, G11, G12, G13, G14, G15, G16, G17, G18, G19, G20, G21, G22, G23, G24, G25, G26, G27, G28, G29, H2, HO, Hk⟩
  have hmw30 := mayWait_end (F := F) c (.dma (semAt (arr agR) 1 30))
  have hmw31 := mayWait_end (F := F) c (.dma (semAt (arr agR) 1 31))
  have hmwX := mayWait_end (F := F) c (.dma (semAt (arr agS) 0 1))
  sl_exec_parts
  iapply (wp_load_widen 𝒱₀ c none Set.univ 1 rfl (fun d => reduced m d 1)) $$ [Hown G1 G2 G3 G4 G5 G6 G7 G8 G9 G10 G11 G12 G13 G14 G15 G16 G17 G18 G19 G20 G21 G22 G23 G24 G25 G26 G27 G28 G29 A30_pay1 A31_pay1]
  · isplitl [Hown]; · iexact Hown
    rw [ks_chain]
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    isplitl [G18]; · iexact G18
    isplitl [G19]; · iexact G19
    isplitl [G20]; · iexact G20
    isplitl [G21]; · iexact G21
    isplitl [G22]; · iexact G22
    isplitl [G23]; · iexact G23
    isplitl [G24]; · iexact G24
    isplitl [G25]; · iexact G25
    isplitl [G26]; · iexact G26
    isplitl [G27]; · iexact G27
    isplitl [G28]; · iexact G28
    isplitl [G29]; · iexact G29
    isplitl [A30_pay1]; · iexact A30_pay1
    iexact A31_pay1
  iintro ⟨Hown, Gall⟩
  sl_exec_parts
  sl_step
  sl_unfold_run_names
  ihave Gall := (Entails.of_eq (ks_chain _)) $$ Gall
  icases Gall with ⟨S1, S2, S3, S4, S5, S6, S7, S8, S9, S10, S11, S12, S13, S14, S15, S16, S17, S18, S19, S20, S21, S22, S23, S24, S25, S26, S27, S28, S29, S30, S31⟩
  have hw : stgM.view.writes (Elt F) (stg2Mid m c f2) [⟨Rect.unit (s := S1024x1024) ![0, 512] S1024x512.size inb_S1024x1024_S1024x512_0_512, k0_pay13 (gathered m 1)⟩] = result m := by
    unfold stg2Mid
    exact result_stores (F := F) m f2 inb_S1024x1024_S1024x512_0_0 inb_S1024x1024_S1024x512_0_512
  have e : (((Memref.whole cc0_stg2_0).view.loc (c : Thread nD τ) ↦{fullShare} stgM.view.writes (Elt F) (stg2Mid m c f2) [⟨Rect.unit (s := S1024x1024) ![0, 512] S1024x512.size inb_S1024x1024_S1024x512_0_512, k0_pay13 (gathered m 1)⟩]) : sProp 𝕄) = ((Memref.whole cc0_stg2_0).view.loc (c : Thread nD τ) ↦{fullShare} result m) := by
    rw [hw]
  unfold stg2Mid gathered at e
  ihave H2 := (Entails.of_eq e) $$ H2
  iapply Hk
  isplitl [Hown]; · iexact Hown
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [A30]; · (isplitr; · iexact I30); iexact A30
  isplitl [A31]; · (isplitr; · iexact I31); iexact A31
  isplitl [H2]; · iexact H2
  isplitl [AX_pay1]; · iexact AX_pay1
  isplitl [AX]; · (isplitr; · iexact IX); iexact AX
  iexact HO

end Cert.Kernel.AllReduce

end
-- ==== Proof.Word.BodyRegroup.lean ====
import proofs.«900438_g7700000000000439_dist_gemm_ar_m1024_k1024_n1024_f32_gelu_v7x_i32_1_alg».proof.Proof.Word.BodyRes
import proofs.«900438_g7700000000000439_dist_gemm_ar_m1024_k1024_n1024_f32_gelu_v7x_i32_1_alg».proof.Proof.Word.BodyGlue
import proofs.«900438_g7700000000000439_dist_gemm_ar_m1024_k1024_n1024_f32_gelu_v7x_i32_1_alg».proof.Proof.Word.LaunchCells
import proofs.«900438_g7700000000000439_dist_gemm_ar_m1024_k1024_n1024_f32_gelu_v7x_i32_1_alg».proof.Proof.Word.RegionSplit
import proofs.«900438_g7700000000000439_dist_gemm_ar_m1024_k1024_n1024_f32_gelu_v7x_i32_1_alg».proof.Proof.Word.GatherShares

noncomputable section

namespace Cert.Kernel.AllReduce

open Cert.Kernel Cert.Kernel.Gen Cert.Kernel.Regions

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-! ## The 64 pieces of a scratch buffer, listed by offset from this device -/

/-- The offsets turned round: slot s is the one the device opp s places on fills. -/
def oppE : Fin 32 ≃ Fin 32 := ⟨opp, opp, opp_opp, opp_opp⟩

omit [FloatOps F] in
theorem fwd_sub : ∀ (c d : Fin 32), fwd c ⟨(d.val + 32 - c.val) % 32, Nat.mod_lt _ (by decide)⟩ = d := by decide +kernel
omit [FloatOps F] in
theorem sub_fwd : ∀ (c k : Fin 32), (⟨((fwd c k).val + 32 - c.val) % 32, Nat.mod_lt _ (by decide)⟩ : Fin 32) = k := by decide +kernel
omit [FloatOps F] in
theorem bwd_sub : ∀ (c d : Fin 32), bwd c ⟨(c.val + 32 - d.val) % 32, Nat.mod_lt _ (by decide)⟩ = d := by decide +kernel
omit [FloatOps F] in
theorem sub_bwd : ∀ (c k : Fin 32), (⟨(c.val + 32 - (bwd c k).val) % 32, Nat.mod_lt _ (by decide)⟩ : Fin 32) = k := by decide +kernel

/-- Offset k to the device k places on, -/
def fwdE (c : Fin 32) : Fin 32 ≃ Fin 32 := ⟨fun k => fwd c k, fun d => ⟨(d.val + 32 - c.val) % 32, Nat.mod_lt _ (by decide)⟩, sub_fwd c, fwd_sub c⟩
/-- and to the device k places back. -/
def bwdE (c : Fin 32) : Fin 32 ≃ Fin 32 := ⟨fun k => bwd c k, fun d => ⟨(c.val + 32 - d.val) % 32, Nat.mod_lt _ (by decide)⟩, sub_bwd c, bwd_sub c⟩

section Lists
variable {M : Type _} [URA M]

/-- The 64 pieces along any renumbering of the places: per half, the piece at place e 0, then those at e 1 … e 31. -/
theorem pieces_by (e : Fin 32 ≃ Fin 32) (Φ : Fin 2 × Fin 32 → sProp M) :
    bigSepL pieces Φ = iprop((Φ (0, e 0) ∗ bigSepL ks fun k => Φ (0, e k)) ∗ (Φ (1, e 0) ∗ bigSepL ks fun k => Φ (1, e k))) := by
  rw [← bigSep_univ_eq_bigSepL pieces pieces_univ pieces_nodup, bigSep_univ_prod, bigSep_hf,
    bigSep_univ_equiv e (fun s => Φ (0, s)), bigSep_univ_equiv e (fun s => Φ (1, s)), bigSep_fin32, bigSep_fin32]

theorem bigSepL_mono (l : List (Fin 32)) (hl : l.Nodup) {Φ Ψ : Fin 32 → sProp M} (h : ∀ k, Φ k ⊢ Ψ k) : bigSepL l Φ ⊢ bigSepL l Ψ := by
  rw [← bigSep_eq_bigSepL l hl, ← bigSep_eq_bigSepL l hl]
  exact bigSep_mono fun k _ => h k

end Lists

/-! ## The receive buffer and the gather buffer at launch, cut -/

/-- The receive buffer whole is its two own slots and, per half, the slots in the order the signals hand them out. -/
theorem buf_cut (c : Dev nD) (fb : Buf (Elt F) ((c : Thread nD τ).loc cc0_scratch2)) :
    ((c : Thread nD τ).loc cc0_scratch2 ↦{fullShare} fb : sProp 𝕄)
      = iprop((slotAt c 0 fb (opp 0) ∗ bigSepL ks fun k => slotAt c 0 fb (opp k)) ∗ (slotAt c 1 fb (opp 0) ∗ bigSepL ks fun k => slotAt c 1 fb (opp k))) :=
  (buf_eq_slots c fullShare fb).trans (pieces_by oppE fun p => slotAt c p.1 fb p.2)

/-- This device's own rows of the gather buffer, half h, at the buffer's contents. -/
def ownOutAt (c : Dev nD) (h : Fin 2) (fo : Buf (Elt F) ((c : Thread nD τ).loc cc0_scratch1)) : sProp 𝕄 :=
  ((chunk outM c h).view.loc (c : Thread nD τ) ↦[(chunk outM c h).view.set]{fullShare} fo)

/-- The gather buffer whole is, per half, the rows by offset from this device (offset 0: its own). -/
theorem out_cut (c : Dev nD) (fo : Buf (Elt F) ((c : Thread nD τ).loc cc0_scratch1)) :
    ((c : Thread nD τ).loc cc0_scratch1 ↦{fullShare} fo : sProp 𝕄)
      = iprop((outAt c 0 0 fo ∗ bigSepL ks fun k => outAt c 0 k fo) ∗ (outAt c 1 0 fo ∗ bigSepL ks fun k => outAt c 1 k fo)) :=
  (out_eq_chunks c fullShare fo).trans (pieces_by (fwdE c) fun p => (chunk outM p.2 p.1).view.loc (c : Thread nD τ) ↦[(chunk outM p.2 p.1).view.set]{fullShare} fo)

/-! ## The three buffers after the body, rejoined -/

omit [FloatOps F] in
theorem ks_nodup' : ks.Nodup := by decide

section Rejoin
variable (c : Dev nD)

/-- A piece at anything. -/
def slotEx (h : Fin 2) (s : Fin 32) : sProp 𝕄 := iprop(∃ f, (slot h s).view.loc (c : Thread nD τ) ↦[(slot h s).view.set]{fullShare} f)
def outEx (h : Fin 2) (d : Fin 32) : sProp 𝕄 := iprop(∃ f, (chunk outM d h).view.loc (c : Thread nD τ) ↦[(chunk outM d h).view.set]{fullShare} f)
def accEx (h : Fin 2) (d : Fin 32) : sProp 𝕄 := iprop(∃ f, (chunk accM d h).view.loc (c : Thread nD τ) ↦[(chunk accM d h).view.set]{fullShare} f)

theorem slots_join_ex : bigSepL pieces (fun p => slotEx (F := F) c p.1 p.2) ⊢ (iprop(∃ g, (c : Thread nD τ).loc cc0_scratch2 ↦{fullShare} g) : sProp 𝕄) := by
  rw [← bigSep_univ_eq_bigSepL pieces pieces_univ pieces_nodup]
  refine (BI.bigSep_exists_pi Finset.univ (fun (p : Fin 2 × Fin 32) (f : Buf (Elt F) ((c : Thread nD τ).loc cc0_scratch2)) =>
    ((slot p.1 p.2).view.loc (c : Thread nD τ) ↦[(slot p.1 p.2).view.set]{fullShare} f : sProp 𝕄))).trans ?_
  iintro ⟨%fs, H⟩
  iapply (slots_join c fullShare fs)
  rw [← bigSep_univ_eq_bigSepL pieces pieces_univ pieces_nodup]
  iexact H

theorem out_join_ex : bigSepL pieces (fun p => outEx (F := F) c p.1 p.2) ⊢ (iprop(∃ g, (c : Thread nD τ).loc cc0_scratch1 ↦{fullShare} g) : sProp 𝕄) := by
  rw [← bigSep_univ_eq_bigSepL pieces pieces_univ pieces_nodup]
  refine (BI.bigSep_exists_pi Finset.univ (fun (p : Fin 2 × Fin 32) (f : Buf (Elt F) ((c : Thread nD τ).loc cc0_scratch1)) =>
    ((chunk outM p.2 p.1).view.loc (c : Thread nD τ) ↦[(chunk outM p.2 p.1).view.set]{fullShare} f : sProp 𝕄))).trans ?_
  iintro ⟨%fs, H⟩
  iapply (out_chunks_join c fullShare fs)
  rw [← bigSep_univ_eq_bigSepL pieces pieces_univ pieces_nodup]
  iexact H

theorem acc_join_ex : bigSepL pieces (fun p => accEx (F := F) c p.1 p.2) ⊢ (iprop(∃ g, (c : Thread nD τ).loc cc0_scratch0 ↦{fullShare} g) : sProp 𝕄) := by
  rw [← bigSep_univ_eq_bigSepL pieces pieces_univ pieces_nodup]
  refine (BI.bigSep_exists_pi Finset.univ (fun (p : Fin 2 × Fin 32) (f : Buf (Elt F) ((c : Thread nD τ).loc cc0_scratch0)) =>
    ((chunk accM p.2 p.1).view.loc (c : Thread nD τ) ↦[(chunk accM p.2 p.1).view.set]{fullShare} f : sProp 𝕄))).trans ?_
  iintro ⟨%fs, H⟩
  iapply (acc_chunks_join c fullShare fs)
  rw [← bigSep_univ_eq_bigSepL pieces pieces_univ pieces_nodup]
  iexact H

theorem got_slotEx (h : Fin 2) (k : Fin 32) : gotRsR m c h k ⊢ slotEx c h k := by
  unfold gotRsR slotEx; iintro H; iexists _; iexact H
theorem gotAgR_outEx (h : Fin 2) (k : Fin 32) : gotAgR m c h k ⊢ outEx c h (bwd c k) := by
  unfold gotAgR outEx; iintro H; iexists _; iexact H
theorem accSrc_accEx (h : Fin 2) (k : Fin 32) : accSrcAt m c h k ⊢ accEx c h (fwd c k) := by
  unfold accSrcAt accEx; iintro H; iexists _; iexact H

/-- The receive buffer: the two own slots at anything, the 62 others as their chunks landed. -/
theorem buf_rejoin : iprop((slotEx c 0 0 ∗ bigSepL ks (fun k => gotRsR m c 0 k)) ∗ (slotEx c 1 0 ∗ bigSepL ks (fun k => gotRsR m c 1 k)))
    ⊢ (iprop(∃ g, (c : Thread nD τ).loc cc0_scratch2 ↦{fullShare} g) : sProp 𝕄) := by
  iintro ⟨⟨A0, A⟩, ⟨B0, B⟩⟩
  ihave A' := (bigSepL_mono ks ks_nodup' (fun k => got_slotEx m c 0 k)) $$ A
  ihave B' := (bigSepL_mono ks ks_nodup' (fun k => got_slotEx m c 1 k)) $$ B
  iapply (slots_join_ex (F := F) c)
  rw [pieces_by (Equiv.refl (Fin 32)) (fun p => slotEx (F := F) c p.1 p.2)]
  simp only [Equiv.refl_apply]
  isplitl [A0 A']
  · isplitl [A0] <;> iassumption
  isplitl [B0] <;> iassumption

/-- The partial product: the 64 chunks as they were sent. -/
theorem acc_rejoin : iprop((accSrcAt m c 0 0 ∗ bigSepL ks (fun k => accSrcAt m c 0 k)) ∗ (accSrcAt m c 1 0 ∗ bigSepL ks (fun k => accSrcAt m c 1 k)))
    ⊢ (iprop(∃ g, (c : Thread nD τ).loc cc0_scratch0 ↦{fullShare} g) : sProp 𝕄) := by
  iintro ⟨⟨A0, A⟩, ⟨B0, B⟩⟩
  ihave A0' := (accSrc_accEx m c 0 0) $$ A0
  ihave B0' := (accSrc_accEx m c 1 0) $$ B0
  ihave A' := (bigSepL_mono ks ks_nodup' (fun k => accSrc_accEx m c 0 k)) $$ A
  ihave B' := (bigSepL_mono ks ks_nodup' (fun k => accSrc_accEx m c 1 k)) $$ B
  iapply (acc_join_ex (F := F) c)
  rw [pieces_by (fwdE c) (fun p => accEx (F := F) c p.1 p.2)]
  simp only [fwdE, Equiv.coe_fn_mk]
  isplitl [A0' A']
  · isplitl [A0'] <;> iassumption
  isplitl [B0'] <;> iassumption

/-- The own gather rows of half h, the 32 shares together again. -/
theorem own_rows_rejoin (h : Fin 2) : iprop(outShareAt m c h 0 ∗ bigSepL ks (fun k => outShareAt m c h k)) ⊢ outEx c h c := by
  have e := pointsTo_full_eq_shares (nD := nD) (τ := τ) (sig := sig) (Ix := Unit) (Val := Elt F) (Name := ℕ) (U := UU) (Lvl := ℕ)
    (ℓ := (chunk outM c h).view.loc (c : Thread nD τ)) ((chunk outM c h).view.set) ((chunk outM c h).view.rep (reduced m c h))
  unfold outShareAt outEx
  rw [← e]
  iintro H; iexists _; iexact H

/-- The gather buffer: the own rows' shares and the 62 other rows as they landed. -/
theorem out_rejoin : iprop(((outShareAt m c 0 0 ∗ bigSepL ks (fun k => outShareAt m c 0 k)) ∗ bigSepL ks (fun k => gotAgR m c 0 k))
      ∗ ((outShareAt m c 1 0 ∗ bigSepL ks (fun k => outShareAt m c 1 k)) ∗ bigSepL ks (fun k => gotAgR m c 1 k)))
    ⊢ (iprop(∃ g, (c : Thread nD τ).loc cc0_scratch1 ↦{fullShare} g) : sProp 𝕄) := by
  iintro ⟨⟨A0, A⟩, ⟨B0, B⟩⟩
  ihave A0' := (own_rows_rejoin m c 0) $$ A0
  ihave B0' := (own_rows_rejoin m c 1) $$ B0
  ihave A' := (bigSepL_mono ks ks_nodup' (fun k => gotAgR_outEx m c 0 k)) $$ A
  ihave B' := (bigSepL_mono ks ks_nodup' (fun k => gotAgR_outEx m c 1 k)) $$ B
  iapply (out_join_ex (F := F) c)
  rw [pieces_by (bwdE c) (fun p => outEx (F := F) c p.1 p.2)]
  simp only [bwdE, Equiv.coe_fn_mk, bwd_zero]
  isplitl [A0' A']
  · isplitl [A0'] <;> iassumption
  isplitl [B0'] <;> iassumption

end Rejoin

/-! ## More glue: the barrier's payloads by kind, the cells' closing by family, the offsets listed -/

omit [FloatOps F] in
theorem ks_eq : ks = [1, 2, 3, 4, 5, 6, 7, 8, 9, 10, 11, 12, 13, 14, 15, 16, 17, 18, 19, 20, 21, 22, 23, 24, 25, 26, 27, 28, 29, 30, 31] := rfl

omit [FloatOps F] in
theorem barGot_split1 (c : Dev nD) (k : Fin 32) : (barGot c k : sProp 𝕄) ⊢ iprop(peerSlotAt c 0 k ∗ peerSlotAt c 1 k ∗ peerOutAt c 0 k ∗ peerOutAt c 1 k) := by
  unfold barGot peerSlotAt peerOutAt
  iintro ⟨A, B, C, D, -⟩
  isplitl [A]
  · iexact A
  isplitl [B]
  · iexact B
  isplitl [C]
  · iexact C
  iexact D

omit [FloatOps F] in
/-- What the barrier wait hands over, sorted: the peers' slots and gather rows, half by half (the reached facts are let go:
    the copies' bundles carry their own). -/
theorem barGot_split (c : Dev nD) : bigSepL ks (fun k => (barGot c k : sProp 𝕄))
    ⊢ iprop(bigSepL ks (fun k => peerSlotAt c 0 k) ∗ bigSepL ks (fun k => peerSlotAt c 1 k) ∗ bigSepL ks (fun k => peerOutAt c 0 k) ∗ bigSepL ks (fun k => peerOutAt c 1 k)) := by
  rw [← bigSep_eq_bigSepL ks ks_nodup', ← bigSep_eq_bigSepL ks ks_nodup', ← bigSep_eq_bigSepL ks ks_nodup', ← bigSep_eq_bigSepL ks ks_nodup', ← bigSep_eq_bigSepL ks ks_nodup',
    ← bigSep_sep', ← bigSep_sep', ← bigSep_sep']
  exact bigSep_mono fun k _ => barGot_split1 c k

/-- The 31 cells of array p, half h, closed. -/
theorem close_fam (c : Dev nD) (p : Phase) (h : Fin 2) :
    bigSepL ks (fun k => closedAt m K c h k p) ⊢ (|={Set.univ}=> bigSepL ks (fun k => semVal (dmaCell c p h k) 0) : sProp 𝕄) := by
  unfold closedAt
  exact close_cells m K c p h

end Cert.Kernel.AllReduce

end
-- ==== Proof.Word.BodyCompose.lean ====
/-
  The body of the kernel on one device, composed: the printed parts' statements applied in program order, the resources
  handed from part to part by family (each family a list in the order the program uses it), the launch state cut
  into those families at the start, and the three scratch buffers and the cells' counters put together again at the end.
-/
import proofs.«900438_g7700000000000439_dist_gemm_ar_m1024_k1024_n1024_f32_gelu_v7x_i32_1_alg».proof.Proof.Word.BodyTwins
import proofs.«900438_g7700000000000439_dist_gemm_ar_m1024_k1024_n1024_f32_gelu_v7x_i32_1_alg».proof.Proof.Word.BodyPart6
import proofs.«900438_g7700000000000439_dist_gemm_ar_m1024_k1024_n1024_f32_gelu_v7x_i32_1_alg».proof.Proof.Word.BodyPart20
import proofs.«900438_g7700000000000439_dist_gemm_ar_m1024_k1024_n1024_f32_gelu_v7x_i32_1_alg».proof.Proof.Word.BodyPart21
import proofs.«900438_g7700000000000439_dist_gemm_ar_m1024_k1024_n1024_f32_gelu_v7x_i32_1_alg».proof.Proof.Word.BodyPart50
import proofs.«900438_g7700000000000439_dist_gemm_ar_m1024_k1024_n1024_f32_gelu_v7x_i32_1_alg».proof.Proof.Word.BodyPart78
import proofs.«900438_g7700000000000439_dist_gemm_ar_m1024_k1024_n1024_f32_gelu_v7x_i32_1_alg».proof.Proof.Word.BodyPart79
import proofs.«900438_g7700000000000439_dist_gemm_ar_m1024_k1024_n1024_f32_gelu_v7x_i32_1_alg».proof.Proof.Word.BodyPart121
import proofs.«900438_g7700000000000439_dist_gemm_ar_m1024_k1024_n1024_f32_gelu_v7x_i32_1_alg».proof.Proof.Word.BodyPart134
import proofs.«900438_g7700000000000439_dist_gemm_ar_m1024_k1024_n1024_f32_gelu_v7x_i32_1_alg».proof.Proof.Word.BodyRegroup
import proofs.«900438_g7700000000000439_dist_gemm_ar_m1024_k1024_n1024_f32_gelu_v7x_i32_1_alg».proof.Proof.Word.BodyShell

noncomputable section

namespace Cert.Kernel.AllReduce

open Cert.Kernel Cert.Kernel.Gen Cert.Kernel.Regions

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (K : GSem nD τ sig → ℕ)

/-! ## The eight parts with local loads and stores, over the named resources -/

theorem part6_spec' (c : Dev nD) (v2 : BitVec 32) (v120 : BitVec 32) (c32_i32_116 : BitVec 32) (fo : Buf (Elt F) ((c : Thread nD τ).loc cc0_scratch1)) (fb : Buf (Elt F) ((c : Thread nD τ).loc cc0_scratch2)) (f3 : Buf (Elt F) ((c : Thread nD τ).loc cc0_scratch0)) (O : CellTallies nD τ sig Unit) (hmwbar : (levAts L lv : sProp 𝕄) ⊢ MayWait (c : Thread nD τ) (.reg barS) () O) (W : Waits sig Unit) (Q : (Σ' (v130 : FVec F S1024x32 .bf16) (v133 : FVec F S32x1024 .bf16), BitVec 32) → sProp 𝕄) :
    iprop(sigRes m K c 30
      ∗ slotAt c 0 fb (opp 30)
      ∗ slotAt c 1 fb (opp 30)
      ∗ outAt c 0 30 fo
      ∗ outAt c 1 30 fo
      ∗ sigRes m K c 31
      ∗ slotAt c 0 fb (opp 31)
      ∗ slotAt c 1 fb (opp 31)
      ∗ outAt c 0 31 fo
      ∗ outAt c 1 31 fo
      ∗ ((Memref.whole cc0_stg0_0).view.loc (c : Thread nD τ) ↦{fullShare} xIn m c)
      ∗ ((Memref.whole cc0_stg1_0).view.loc (c : Thread nD τ) ↦{fullShare} wIn m c)
      ∗ ((Memref.whole cc0_scratch0).view.loc (c : Thread nD τ) ↦{fullShare} f3)
      ∗ slotAt c 0 fb (opp 0)
      ∗ barRes m K c
      ∗ levAts L lv
      ∗ owes (c : Thread nD τ) (O + tallyAt (barCell (fwd c 31)) () 1 + tallyAt (barCell (fwd c 30)) () 1) W
      ∗ (∀ (v : BitVec 32), (((Memref.whole cc0_stg0_0).view.loc (c : Thread nD τ) ↦{fullShare} xIn m c) ∗ ((Memref.whole cc0_stg1_0).view.loc (c : Thread nD τ) ↦{fullShare} wIn m c) ∗ accSrcAt m c 0 0 ∗ accSrcAt m c 0 1 ∗ accSrcAt m c 0 2 ∗ accSrcAt m c 0 3 ∗ accSrcAt m c 0 4 ∗ accSrcAt m c 0 5 ∗ accSrcAt m c 0 6 ∗ accSrcAt m c 0 7 ∗ accSrcAt m c 0 8 ∗ accSrcAt m c 0 9 ∗ accSrcAt m c 0 10 ∗ accSrcAt m c 0 11 ∗ accSrcAt m c 0 12 ∗ accSrcAt m c 0 13 ∗ accSrcAt m c 0 14 ∗ accSrcAt m c 0 15 ∗ accSrcAt m c 0 16 ∗ accSrcAt m c 0 17 ∗ accSrcAt m c 0 18 ∗ accSrcAt m c 0 19 ∗ accSrcAt m c 0 20 ∗ accSrcAt m c 0 21 ∗ accSrcAt m c 0 22 ∗ accSrcAt m c 0 23 ∗ accSrcAt m c 0 24 ∗ accSrcAt m c 0 25 ∗ accSrcAt m c 0 26 ∗ accSrcAt m c 0 27 ∗ accSrcAt m c 0 28 ∗ accSrcAt m c 0 29 ∗ accSrcAt m c 0 30 ∗ accSrcAt m c 0 31 ∗ (bigSepL places (fun d => (chunk accM d 1).view.loc (c : Thread nD τ) ↦[(chunk accM d 1).view.set]{fullShare} accM.view.writes (Elt F) f3 [⟨Rect.unit (s := S1024x1024) ![0, 0] S1024x512.size inb_S1024x1024_S1024x512_0_0, k0_pay3 (xIn m c) (wIn m c)⟩])) ∗ gotRsR m c 0 0 ∗ (bigSepL ks (fun k => barGot c k)) ∗ owes (c : Thread nD τ) (O) (insert (SemLoc.reg barS, ()) (W))) -∗ Q ⟨k0_pay1 (xIn m c), k0_pay2 (wIn m c), v⟩))
      ⊢ wp frame (wpE (defs₀ (F := F)) 𝒱₀ c none) Set.univ (k0_part6 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v120 c32_i32_116) Q :=
  part6_spec m K c v2 v120 c32_i32_116 fo fb f3 O hmwbar W Q

theorem part20_spec' (c : Dev nD) (v2 : BitVec 32) (v495 : BitVec 32) (f3 : Buf (Elt F) ((c : Thread nD τ).loc cc0_scratch0)) (O : CellTallies nD τ sig Unit) (W : Waits sig Unit) (Q : PUnit → sProp 𝕄) :
    iprop(copyRes m K rsS rsR c 0 30
      ∗ accSrcAt m c 0 30
      ∗ peerSlotAt c 0 30
      ∗ copyRes m K rsS rsR c 0 31
      ∗ accSrcAt m c 0 31
      ∗ peerSlotAt c 0 31
      ∗ (bigSepL places (fun d => (chunk accM d 1).view.loc (c : Thread nD τ) ↦[(chunk accM d 1).view.set]{fullShare} accM.view.writes (Elt F) f3 [⟨Rect.unit (s := S1024x1024) ![0, 0] S1024x512.size inb_S1024x1024_S1024x512_0_0, k0_pay3 (xIn m c) (wIn m c)⟩]))
      ∗ owes (c : Thread nD τ) (O + tallyAt (dmaCell (fwd c 31) rsR 0 31) () Nc + tallyAt (dmaCell (fwd c 30) rsR 0 30) () Nc) W
      ∗ (∀ r, (recvRes m K rsS c 0 30 ∗ recvRes m K rsS c 0 31 ∗ accSrcAt m c 1 0 ∗ accSrcAt m c 1 1 ∗ accSrcAt m c 1 2 ∗ accSrcAt m c 1 3 ∗ accSrcAt m c 1 4 ∗ accSrcAt m c 1 5 ∗ accSrcAt m c 1 6 ∗ accSrcAt m c 1 7 ∗ accSrcAt m c 1 8 ∗ accSrcAt m c 1 9 ∗ accSrcAt m c 1 10 ∗ accSrcAt m c 1 11 ∗ accSrcAt m c 1 12 ∗ accSrcAt m c 1 13 ∗ accSrcAt m c 1 14 ∗ accSrcAt m c 1 15 ∗ accSrcAt m c 1 16 ∗ accSrcAt m c 1 17 ∗ accSrcAt m c 1 18 ∗ accSrcAt m c 1 19 ∗ accSrcAt m c 1 20 ∗ accSrcAt m c 1 21 ∗ accSrcAt m c 1 22 ∗ accSrcAt m c 1 23 ∗ accSrcAt m c 1 24 ∗ accSrcAt m c 1 25 ∗ accSrcAt m c 1 26 ∗ accSrcAt m c 1 27 ∗ accSrcAt m c 1 28 ∗ accSrcAt m c 1 29 ∗ accSrcAt m c 1 30 ∗ accSrcAt m c 1 31 ∗ owes (c : Thread nD τ) (O) (W)) -∗ Q r))
      ⊢ wp frame (wpE (defs₀ (F := F)) 𝒱₀ c none) Set.univ (k0_part20 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (k0_pay1 (xIn m c)) (k0_pay2 (wIn m c)) v495) Q :=
  part20_spec m K c v2 v495 f3 O W Q

theorem part21_spec' (c : Dev nD) (v2 : BitVec 32) (fb : Buf (Elt F) ((c : Thread nD τ).loc cc0_scratch2)) (O : CellTallies nD τ sig Unit) (W : Waits sig Unit) (Q : (PUnit) → sProp 𝕄) :
    iprop(accSrcAt m c 1 0
      ∗ slotAt c 1 fb (opp 0)
      ∗ copyRes m K rsS rsR c 1 1
      ∗ accSrcAt m c 1 1
      ∗ peerSlotAt c 1 1
      ∗ owes (c : Thread nD τ) (O + tallyAt (dmaCell (fwd c 1) rsR 1 1) () Nc) W
      ∗ (∀ r, (accSrcAt m c 1 0 ∗ gotRsR m c 1 0 ∗ recvRes m K rsS c 1 1 ∗ owes (c : Thread nD τ) O W) -∗ Q r))
      ⊢ wp frame (wpE (defs₀ (F := F)) 𝒱₀ c none) Set.univ (k0_part21 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part21_spec m K c v2 fb O W Q

theorem part50_spec' (c : Dev nD) (v2 : BitVec 32) (fo : Buf (Elt F) ((c : Thread nD τ).loc cc0_scratch1)) (W : Waits sig Unit) (Q : PUnit → sProp 𝕄) :
    iprop(recvRes m K rsR c 0 31
      ∗ levAts L lv
      ∗ gotRsR m c 0 0
      ∗ gotRsR m c 0 1
      ∗ gotRsR m c 0 2
      ∗ gotRsR m c 0 3
      ∗ gotRsR m c 0 4
      ∗ gotRsR m c 0 5
      ∗ gotRsR m c 0 6
      ∗ gotRsR m c 0 7
      ∗ gotRsR m c 0 8
      ∗ gotRsR m c 0 9
      ∗ gotRsR m c 0 10
      ∗ gotRsR m c 0 11
      ∗ gotRsR m c 0 12
      ∗ gotRsR m c 0 13
      ∗ gotRsR m c 0 14
      ∗ gotRsR m c 0 15
      ∗ gotRsR m c 0 16
      ∗ gotRsR m c 0 17
      ∗ gotRsR m c 0 18
      ∗ gotRsR m c 0 19
      ∗ gotRsR m c 0 20
      ∗ gotRsR m c 0 21
      ∗ gotRsR m c 0 22
      ∗ gotRsR m c 0 23
      ∗ gotRsR m c 0 24
      ∗ gotRsR m c 0 25
      ∗ gotRsR m c 0 26
      ∗ gotRsR m c 0 27
      ∗ gotRsR m c 0 28
      ∗ gotRsR m c 0 29
      ∗ gotRsR m c 0 30
      ∗ outAt c 0 0 fo
      ∗ owes (c : Thread nD τ) (owedAfter c 93) W
      ∗ (∀ r, (gotRsR m c 0 0 ∗ gotRsR m c 0 1 ∗ gotRsR m c 0 2 ∗ gotRsR m c 0 3 ∗ gotRsR m c 0 4 ∗ gotRsR m c 0 5 ∗ gotRsR m c 0 6 ∗ gotRsR m c 0 7 ∗ gotRsR m c 0 8 ∗ gotRsR m c 0 9 ∗ gotRsR m c 0 10 ∗ gotRsR m c 0 11 ∗ gotRsR m c 0 12 ∗ gotRsR m c 0 13 ∗ gotRsR m c 0 14 ∗ gotRsR m c 0 15 ∗ gotRsR m c 0 16 ∗ gotRsR m c 0 17 ∗ gotRsR m c 0 18 ∗ gotRsR m c 0 19 ∗ gotRsR m c 0 20 ∗ gotRsR m c 0 21 ∗ gotRsR m c 0 22 ∗ gotRsR m c 0 23 ∗ gotRsR m c 0 24 ∗ gotRsR m c 0 25 ∗ gotRsR m c 0 26 ∗ gotRsR m c 0 27 ∗ gotRsR m c 0 28 ∗ gotRsR m c 0 29 ∗ gotRsR m c 0 30 ∗ gotRsR m c 0 31 ∗ closedAt m K c 0 31 rsR ∗ outShareAt m c 0 0 ∗ outShareAt m c 0 1 ∗ outShareAt m c 0 2 ∗ outShareAt m c 0 3 ∗ outShareAt m c 0 4 ∗ outShareAt m c 0 5 ∗ outShareAt m c 0 6 ∗ outShareAt m c 0 7 ∗ outShareAt m c 0 8 ∗ outShareAt m c 0 9 ∗ outShareAt m c 0 10 ∗ outShareAt m c 0 11 ∗ outShareAt m c 0 12 ∗ outShareAt m c 0 13 ∗ outShareAt m c 0 14 ∗ outShareAt m c 0 15 ∗ outShareAt m c 0 16 ∗ outShareAt m c 0 17 ∗ outShareAt m c 0 18 ∗ outShareAt m c 0 19 ∗ outShareAt m c 0 20 ∗ outShareAt m c 0 21 ∗ outShareAt m c 0 22 ∗ outShareAt m c 0 23 ∗ outShareAt m c 0 24 ∗ outShareAt m c 0 25 ∗ outShareAt m c 0 26 ∗ outShareAt m c 0 27 ∗ outShareAt m c 0 28 ∗ outShareAt m c 0 29 ∗ outShareAt m c 0 30 ∗ outShareAt m c 0 31 ∗ owes (c : Thread nD τ) (owedAfter c 93) (insert (SemLoc.dma (semAt (arr rsR) 0 31), ()) (W))) -∗ Q r))
      ⊢ wp frame (wpE (defs₀ (F := F)) 𝒱₀ c none) Set.univ (k0_part50 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q :=
  part50_spec m K c v2 fo W Q

theorem part78_spec' (c : Dev nD) (v2 : BitVec 32) (W : Waits sig Unit) (Q : (Σ' (v1984 : FVec F S32x512 .f32), FVec F S32x512 .f32) → sProp 𝕄) :
    iprop(recvRes m K rsR c 1 30
      ∗ recvRes m K rsR c 1 31
      ∗ levAts L lv
      ∗ gotRsR m c 1 0
      ∗ gotRsR m c 1 1
      ∗ gotRsR m c 1 2
      ∗ gotRsR m c 1 3
      ∗ gotRsR m c 1 4
      ∗ gotRsR m c 1 5
      ∗ gotRsR m c 1 6
      ∗ gotRsR m c 1 7
      ∗ gotRsR m c 1 8
      ∗ gotRsR m c 1 9
      ∗ gotRsR m c 1 10
      ∗ gotRsR m c 1 11
      ∗ gotRsR m c 1 12
      ∗ gotRsR m c 1 13
      ∗ gotRsR m c 1 14
      ∗ gotRsR m c 1 15
      ∗ gotRsR m c 1 16
      ∗ gotRsR m c 1 17
      ∗ gotRsR m c 1 18
      ∗ gotRsR m c 1 19
      ∗ gotRsR m c 1 20
      ∗ gotRsR m c 1 21
      ∗ gotRsR m c 1 22
      ∗ gotRsR m c 1 23
      ∗ gotRsR m c 1 24
      ∗ gotRsR m c 1 25
      ∗ gotRsR m c 1 26
      ∗ gotRsR m c 1 27
      ∗ gotRsR m c 1 28
      ∗ gotRsR m c 1 29
      ∗ owes (c : Thread nD τ) (owedAfter c 124) W
      ∗ ((gotRsR m c 1 0 ∗ gotRsR m c 1 1 ∗ gotRsR m c 1 2 ∗ gotRsR m c 1 3 ∗ gotRsR m c 1 4 ∗ gotRsR m c 1 5 ∗ gotRsR m c 1 6 ∗ gotRsR m c 1 7 ∗ gotRsR m c 1 8 ∗ gotRsR m c 1 9 ∗ gotRsR m c 1 10 ∗ gotRsR m c 1 11 ∗ gotRsR m c 1 12 ∗ gotRsR m c 1 13 ∗ gotRsR m c 1 14 ∗ gotRsR m c 1 15 ∗ gotRsR m c 1 16 ∗ gotRsR m c 1 17 ∗ gotRsR m c 1 18 ∗ gotRsR m c 1 19 ∗ gotRsR m c 1 20 ∗ gotRsR m c 1 21 ∗ gotRsR m c 1 22 ∗ gotRsR m c 1 23 ∗ gotRsR m c 1 24 ∗ gotRsR m c 1 25 ∗ gotRsR m c 1 26 ∗ gotRsR m c 1 27 ∗ gotRsR m c 1 28 ∗ gotRsR m c 1 29 ∗ gotRsR m c 1 30 ∗ gotRsR m c 1 31 ∗ closedAt m K c 1 30 rsR ∗ closedAt m K c 1 31 rsR ∗ owes (c : Thread nD τ) (owedAfter c 124) (insert (SemLoc.dma (semAt (arr rsR) 1 31), ()) (insert (SemLoc.dma (semAt (arr rsR) 1 30), ()) (W)))) -∗ Q ⟨k0_pay9 (halfVal m c 1), k0_pay10 (halfVal m c 1)⟩))
      ⊢ wp frame (wpE (defs₀ (F := F)) 𝒱₀ c none) Set.univ (k0_part78 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q :=
  part78_spec m K c v2 W Q

theorem part79_spec' (c : Dev nD) (v2 : BitVec 32) (fo : Buf (Elt F) ((c : Thread nD τ).loc cc0_scratch1)) (O : CellTallies nD τ sig Unit) (W : Waits sig Unit) (Q : PUnit → sProp 𝕄) :
    iprop(outAt c 1 0 fo
      ∗ copyRes m K agS agR c 1 1
      ∗ peerOutAt c 1 1
      ∗ owes (c : Thread nD τ) (O + tallyAt (dmaCell (fwd c 1) agR 1 1) () Nc) W
      ∗ (∀ r, (outShareAt m c 1 0 ∗ outShareAt m c 1 2 ∗ outShareAt m c 1 3 ∗ outShareAt m c 1 4 ∗ outShareAt m c 1 5 ∗ outShareAt m c 1 6 ∗ outShareAt m c 1 7 ∗ outShareAt m c 1 8 ∗ outShareAt m c 1 9 ∗ outShareAt m c 1 10 ∗ outShareAt m c 1 11 ∗ outShareAt m c 1 12 ∗ outShareAt m c 1 13 ∗ outShareAt m c 1 14 ∗ outShareAt m c 1 15 ∗ outShareAt m c 1 16 ∗ outShareAt m c 1 17 ∗ outShareAt m c 1 18 ∗ outShareAt m c 1 19 ∗ outShareAt m c 1 20 ∗ outShareAt m c 1 21 ∗ outShareAt m c 1 22 ∗ outShareAt m c 1 23 ∗ outShareAt m c 1 24 ∗ outShareAt m c 1 25 ∗ outShareAt m c 1 26 ∗ outShareAt m c 1 27 ∗ outShareAt m c 1 28 ∗ outShareAt m c 1 29 ∗ outShareAt m c 1 30 ∗ outShareAt m c 1 31 ∗ recvRes m K agS c 1 1 ∗ owes (c : Thread nD τ) (O) (W)) -∗ Q r))
      ⊢ wp frame (wpE (defs₀ (F := F)) 𝒱₀ c none) Set.univ (k0_part79 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (k0_pay9 (halfVal m c 1)) (k0_pay10 (halfVal m c 1))) Q :=
  part79_spec m K c v2 fo O W Q

theorem part121_spec' (c : Dev nD) (v2 : BitVec 32) (v3005 : BitVec 32) (c1_i32_3836 : BitVec 32) (f2 : Buf (Elt F) ((c : Thread nD τ).loc cc0_stg2_0)) (W : Waits sig Unit) (Q : (Σ' (v3033 : BitVec 32), BitVec 32) → sProp 𝕄) :
    iprop(recvRes m K agR c 0 30
      ∗ recvRes m K agR c 0 31
      ∗ levAts L lv
      ∗ outShareAt m c 0 0
      ∗ gotAgR m c 0 1
      ∗ gotAgR m c 0 2
      ∗ gotAgR m c 0 3
      ∗ gotAgR m c 0 4
      ∗ gotAgR m c 0 5
      ∗ gotAgR m c 0 6
      ∗ gotAgR m c 0 7
      ∗ gotAgR m c 0 8
      ∗ gotAgR m c 0 9
      ∗ gotAgR m c 0 10
      ∗ gotAgR m c 0 11
      ∗ gotAgR m c 0 12
      ∗ gotAgR m c 0 13
      ∗ gotAgR m c 0 14
      ∗ gotAgR m c 0 15
      ∗ gotAgR m c 0 16
      ∗ gotAgR m c 0 17
      ∗ gotAgR m c 0 18
      ∗ gotAgR m c 0 19
      ∗ gotAgR m c 0 20
      ∗ gotAgR m c 0 21
      ∗ gotAgR m c 0 22
      ∗ gotAgR m c 0 23
      ∗ gotAgR m c 0 24
      ∗ gotAgR m c 0 25
      ∗ gotAgR m c 0 26
      ∗ gotAgR m c 0 27
      ∗ gotAgR m c 0 28
      ∗ gotAgR m c 0 29
      ∗ ((Memref.whole cc0_stg2_0).view.loc (c : Thread nD τ) ↦{fullShare} f2)
      ∗ owes (c : Thread nD τ) (owedAfter c 155) W
      ∗ (∀ r, (outShareAt m c 0 0 ∗ gotAgR m c 0 1 ∗ gotAgR m c 0 2 ∗ gotAgR m c 0 3 ∗ gotAgR m c 0 4 ∗ gotAgR m c 0 5 ∗ gotAgR m c 0 6 ∗ gotAgR m c 0 7 ∗ gotAgR m c 0 8 ∗ gotAgR m c 0 9 ∗ gotAgR m c 0 10 ∗ gotAgR m c 0 11 ∗ gotAgR m c 0 12 ∗ gotAgR m c 0 13 ∗ gotAgR m c 0 14 ∗ gotAgR m c 0 15 ∗ gotAgR m c 0 16 ∗ gotAgR m c 0 17 ∗ gotAgR m c 0 18 ∗ gotAgR m c 0 19 ∗ gotAgR m c 0 20 ∗ gotAgR m c 0 21 ∗ gotAgR m c 0 22 ∗ gotAgR m c 0 23 ∗ gotAgR m c 0 24 ∗ gotAgR m c 0 25 ∗ gotAgR m c 0 26 ∗ gotAgR m c 0 27 ∗ gotAgR m c 0 28 ∗ gotAgR m c 0 29 ∗ gotAgR m c 0 30 ∗ gotAgR m c 0 31 ∗ closedAt m K c 0 30 agR ∗ closedAt m K c 0 31 agR ∗ ((Memref.whole cc0_stg2_0).view.loc (c : Thread nD τ) ↦{fullShare} stg2Mid m c f2) ∗ owes (c : Thread nD τ) (owedAfter c 155) (insert (SemLoc.dma (semAt (arr agR) 0 31), ()) (insert (SemLoc.dma (semAt (arr agR) 0 30), ()) (W)))) -∗ Q r))
      ⊢ wp frame (wpE (defs₀ (F := F)) 𝒱₀ c none) Set.univ (k0_part121 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3005 c1_i32_3836) Q :=
  part121_spec m K c v2 v3005 c1_i32_3836 f2 W Q

theorem part134_spec' (c : Dev nD) (v2 : BitVec 32) (v3349 : BitVec 32) (f2 : Buf (Elt F) ((c : Thread nD τ).loc cc0_stg2_0)) (W : Waits sig Unit) (Q : (PUnit) → sProp 𝕄) :
    iprop(recvRes m K agR c 1 30
      ∗ recvRes m K agR c 1 31
      ∗ recvRes m K agS c 0 1
      ∗ levAts L lv
      ∗ outShareAt m c 1 0
      ∗ gotAgR m c 1 1
      ∗ gotAgR m c 1 2
      ∗ gotAgR m c 1 3
      ∗ gotAgR m c 1 4
      ∗ gotAgR m c 1 5
      ∗ gotAgR m c 1 6
      ∗ gotAgR m c 1 7
      ∗ gotAgR m c 1 8
      ∗ gotAgR m c 1 9
      ∗ gotAgR m c 1 10
      ∗ gotAgR m c 1 11
      ∗ gotAgR m c 1 12
      ∗ gotAgR m c 1 13
      ∗ gotAgR m c 1 14
      ∗ gotAgR m c 1 15
      ∗ gotAgR m c 1 16
      ∗ gotAgR m c 1 17
      ∗ gotAgR m c 1 18
      ∗ gotAgR m c 1 19
      ∗ gotAgR m c 1 20
      ∗ gotAgR m c 1 21
      ∗ gotAgR m c 1 22
      ∗ gotAgR m c 1 23
      ∗ gotAgR m c 1 24
      ∗ gotAgR m c 1 25
      ∗ gotAgR m c 1 26
      ∗ gotAgR m c 1 27
      ∗ gotAgR m c 1 28
      ∗ gotAgR m c 1 29
      ∗ ((Memref.whole cc0_stg2_0).view.loc (c : Thread nD τ) ↦{fullShare} stg2Mid m c f2)
      ∗ owes (c : Thread nD τ) (owedAfter c 155) W
      ∗ (∀ r, (outShareAt m c 1 0 ∗ gotAgR m c 1 1 ∗ gotAgR m c 1 2 ∗ gotAgR m c 1 3 ∗ gotAgR m c 1 4 ∗ gotAgR m c 1 5 ∗ gotAgR m c 1 6 ∗ gotAgR m c 1 7 ∗ gotAgR m c 1 8 ∗ gotAgR m c 1 9 ∗ gotAgR m c 1 10 ∗ gotAgR m c 1 11 ∗ gotAgR m c 1 12 ∗ gotAgR m c 1 13 ∗ gotAgR m c 1 14 ∗ gotAgR m c 1 15 ∗ gotAgR m c 1 16 ∗ gotAgR m c 1 17 ∗ gotAgR m c 1 18 ∗ gotAgR m c 1 19 ∗ gotAgR m c 1 20 ∗ gotAgR m c 1 21 ∗ gotAgR m c 1 22 ∗ gotAgR m c 1 23 ∗ gotAgR m c 1 24 ∗ gotAgR m c 1 25 ∗ gotAgR m c 1 26 ∗ gotAgR m c 1 27 ∗ gotAgR m c 1 28 ∗ gotAgR m c 1 29 ∗ gotAgR m c 1 30 ∗ gotAgR m c 1 31 ∗ closedAt m K c 1 30 agR ∗ closedAt m K c 1 31 agR ∗ ((Memref.whole cc0_stg2_0).view.loc (c : Thread nD τ) ↦{fullShare} result m) ∗ outShareAt m c 0 1 ∗ closedAt m K c 0 1 agS ∗ owes (c : Thread nD τ) (owedAfter c 155) (insert (SemLoc.dma (semAt (arr agS) 0 1), ()) (insert (SemLoc.dma (semAt (arr agR) 1 31), ()) (insert (SemLoc.dma (semAt (arr agR) 1 30), ()) (W))))) -∗ Q r))
      ⊢ wp frame (wpE (defs₀ (F := F)) 𝒱₀ c none) Set.univ (k0_part134 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3349) Q :=
  part134_spec m K c v2 v3349 f2 W Q

/-! ## The last wait -/

attribute [local sl_rounds] duties_dma amount_dma expect_dma pay_agS in
set_option maxHeartbeats 4000000 in
/-- The last wait of the body: the departure of the gather copy of offset 31, half 1. -/
theorem tail_spec (c : Dev nD) (W : Waits sig Unit) (Q : PUnit → sProp 𝕄) :
    iprop(recvRes m K agS c 1 31
      ∗ levAts L lv
      ∗ owes (c : Thread nD τ) (owedAfter c 155) W
      ∗ (∀ r, (outShareAt m c 1 31 ∗ closedAt m K c 1 31 agS
          ∗ owes (c : Thread nD τ) (owedAfter c 155) (insert (SemLoc.dma (semAt (arr agS) 1 31), ()) (W))) -∗ Q r))
      ⊢ wp frame (wpE (defs₀ (F := F)) 𝒱₀ c none) Set.univ (Prog.lift (.waitDma2 ((cc0_scratch5.slice (Rect.unit (s := S2x32) ![1, 31] S1x1.size inb_S2x32_S1x1_1_31)).squeeze S_ squeezes_S1x1_S_).sem
        ((Memref.whole cc0_scratch1).slice (Rect.unit (s := S1024x1024) (k0_off6 c) S32x512.size (k0_off6_inb c)) (fun _ => rfl))
        ((Memref.whole cc0_scratch1).slice (Rect.unit (s := S1024x1024) (k0_off6 c) S32x512.size (k0_off6_inb c)) (fun _ => rfl))
        ((Memref.isWhole_whole (cc0_scratch1 : Ref sig .tc)).wordExact_slice rfl _ (k0_off6_wordsbf16 c)) ((Memref.isWhole_whole (cc0_scratch1 : Ref sig .tc)).wordExact_slice rfl _ (k0_off6_wordsbf16 c)))
      : Prog (TpuEff nD τ sig (Elt F) Λ₀ .tc) PUnit) Q := by
  unfold recvRes outShareAt closedAt
  iintro ⟨⟨#IagS1_31, AagS1_31, CagS1_31⟩, #Hlev, HO, Hk⟩
  have hmwagS1_31 := mayWait_end (F := F) c (.dma (semAt (arr agS) 1 31))
  sl_exec_parts
  sl_step
  iapply Hk
  isplitl [AagS1_31_pay1]; · iexact AagS1_31_pay1
  isplitl [AagS1_31]; · (isplitr; · iexact IagS1_31); iexact AagS1_31
  iexact HO

/-! ## The two grouping parts -/

set_option maxRecDepth 100000 in
set_option maxHeartbeats 4000000 in
theorem part147_spec (c : Dev nD) (f3 : Buf (Elt F) ((c : Thread nD τ).loc cc0_scratch0)) (fo : Buf (Elt F) ((c : Thread nD τ).loc cc0_scratch1)) (fb : Buf (Elt F) ((c : Thread nD τ).loc cc0_scratch2)) (W : Waits sig Unit) (Q : (Σ' (d0 : Dev nD), BitVec 32) → sProp 𝕄) :
    iprop(owes (c : Thread nD τ) (owedAfter c 0) W
      ∗ levAts L lv
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => sigRes m K c k)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => slotAt c 0 fb (opp k))
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => slotAt c 1 fb (opp k))
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => outAt c 0 k fo)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => outAt c 1 k fo)
      ∗ ((Memref.whole cc0_stg0_0).view.loc (c : Thread nD τ) ↦{fullShare} xIn m c)
      ∗ ((Memref.whole cc0_stg1_0).view.loc (c : Thread nD τ) ↦{fullShare} wIn m c)
      ∗ ((Memref.whole cc0_scratch0).view.loc (c : Thread nD τ) ↦{fullShare} f3)
      ∗ bigSepL ([0] : List (Fin 32)) (fun k : Fin 32 => slotAt c 0 fb (opp k))
      ∗ barRes m K c
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => copyRes m K rsS rsR c 0 k)
      ∗ bigSepL ([0] : List (Fin 32)) (fun k : Fin 32 => slotAt c 1 fb (opp k))
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => copyRes m K rsS rsR c 1 k)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K rsR c 0 k)
      ∗ bigSepL ([0] : List (Fin 32)) (fun k : Fin 32 => outAt c 0 k fo)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => copyRes m K agS agR c 0 k)
      ∗ (∀ (v2 : BitVec 32), (owes (c : Thread nD τ) (owedAfter c 117) (((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))) ∗ ((Memref.whole cc0_stg0_0).view.loc (c : Thread nD τ) ↦{fullShare} xIn m c) ∗ ((Memref.whole cc0_stg1_0).view.loc (c : Thread nD τ) ↦{fullShare} wIn m c) ∗ bigSepL ([0] : List (Fin 32)) (fun k : Fin 32 => accSrcAt m c 0 k) ∗ bigSepL ([0, 1, 2, 3, 4, 5, 6, 7, 8, 9, 10, 11, 12, 13, 14, 15, 16, 17, 18, 19, 20, 21, 22, 23, 24, 25, 26, 27, 28, 29, 30, 31] : List (Fin 32)) (fun k : Fin 32 => gotRsR m c 0 k) ∗ bigSepL ([25, 26, 27, 28, 29, 30, 31] : List (Fin 32)) (fun k : Fin 32 => peerOutAt c 0 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => peerOutAt c 1 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K rsS c 0 k) ∗ bigSepL ([0] : List (Fin 32)) (fun k : Fin 32 => accSrcAt m c 1 k) ∗ bigSepL ([0] : List (Fin 32)) (fun k : Fin 32 => gotRsR m c 1 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K rsS c 1 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => closedAt m K c 0 k rsR) ∗ bigSepL ([0] : List (Fin 32)) (fun k : Fin 32 => outShareAt m c 0 k) ∗ bigSepL ([25, 26, 27, 28, 29, 30, 31] : List (Fin 32)) (fun k : Fin 32 => outShareAt m c 0 k) ∗ bigSepL ([25, 26, 27, 28, 29, 30, 31] : List (Fin 32)) (fun k : Fin 32 => copyRes m K agS agR c 0 k) ∗ bigSepL ([1, 2, 3, 4, 5, 6, 7, 8, 9, 10, 11, 12, 13, 14, 15, 16, 17, 18, 19, 20, 21, 22, 23, 24] : List (Fin 32)) (fun k : Fin 32 => recvRes m K agS c 0 k)) -∗ Q ⟨c, v2⟩))
      ⊢ wp frame (wpE (defs₀ (F := F)) 𝒱₀ c none) Set.univ (k0_part147 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q := by
  rw [k0_part147_eq_skeleton]; unfold k0_part147_skel
  iintro ⟨H_owes, #Hlev, F_sigRes, F_slot_0, F_slot_1, F_out_0, F_out_1, F_stgX, F_stgW, F_accWhole, F_slot0_0, F_barRes, F_copyRes_rsS_0, F_slot0_1, F_copyRes_rsS_1, F_recvRes_rsR_0, F_out0_0, F_copyRes_agS_0, Hk⟩
  -- k0_part1
  icases (bigSepL_pop (fun k : Fin 32 => sigRes m K c k) 1 2 [3, 4, 5, 6, 7, 8, 9, 10, 11, 12, 13, 14, 15, 16, 17, 18, 19, 20, 21, 22, 23, 24, 25, 26, 27, 28, 29, 30, 31]) $$ F_sigRes with ⟨T1, F_sigRes⟩
  icases (bigSepL_pop (fun k : Fin 32 => slotAt c 0 fb (opp k)) 1 2 [3, 4, 5, 6, 7, 8, 9, 10, 11, 12, 13, 14, 15, 16, 17, 18, 19, 20, 21, 22, 23, 24, 25, 26, 27, 28, 29, 30, 31]) $$ F_slot_0 with ⟨T2, F_slot_0⟩
  icases (bigSepL_pop (fun k : Fin 32 => slotAt c 1 fb (opp k)) 1 2 [3, 4, 5, 6, 7, 8, 9, 10, 11, 12, 13, 14, 15, 16, 17, 18, 19, 20, 21, 22, 23, 24, 25, 26, 27, 28, 29, 30, 31]) $$ F_slot_1 with ⟨T3, F_slot_1⟩
  icases (bigSepL_pop (fun k : Fin 32 => outAt c 0 k fo) 1 2 [3, 4, 5, 6, 7, 8, 9, 10, 11, 12, 13, 14, 15, 16, 17, 18, 19, 20, 21, 22, 23, 24, 25, 26, 27, 28, 29, 30, 31]) $$ F_out_0 with ⟨T4, F_out_0⟩
  icases (bigSepL_pop (fun k : Fin 32 => outAt c 1 k fo) 1 2 [3, 4, 5, 6, 7, 8, 9, 10, 11, 12, 13, 14, 15, 16, 17, 18, 19, 20, 21, 22, 23, 24, 25, 26, 27, 28, 29, 30, 31]) $$ F_out_1 with ⟨T5, F_out_1⟩
  icases (bigSepL_pop (fun k : Fin 32 => sigRes m K c k) 2 3 [4, 5, 6, 7, 8, 9, 10, 11, 12, 13, 14, 15, 16, 17, 18, 19, 20, 21, 22, 23, 24, 25, 26, 27, 28, 29, 30, 31]) $$ F_sigRes with ⟨T6, F_sigRes⟩
  icases (bigSepL_pop (fun k : Fin 32 => slotAt c 0 fb (opp k)) 2 3 [4, 5, 6, 7, 8, 9, 10, 11, 12, 13, 14, 15, 16, 17, 18, 19, 20, 21, 22, 23, 24, 25, 26, 27, 28, 29, 30, 31]) $$ F_slot_0 with ⟨T7, F_slot_0⟩
  icases (bigSepL_pop (fun k : Fin 32 => slotAt c 1 fb (opp k)) 2 3 [4, 5, 6, 7, 8, 9, 10, 11, 12, 13, 14, 15, 16, 17, 18, 19, 20, 21, 22, 23, 24, 25, 26, 27, 28, 29, 30, 31]) $$ F_slot_1 with ⟨T8, F_slot_1⟩
  icases (bigSepL_pop (fun k : Fin 32 => outAt c 0 k fo) 2 3 [4, 5, 6, 7, 8, 9, 10, 11, 12, 13, 14, 15, 16, 17, 18, 19, 20, 21, 22, 23, 24, 25, 26, 27, 28, 29, 30, 31]) $$ F_out_0 with ⟨T9, F_out_0⟩
  icases (bigSepL_pop (fun k : Fin 32 => outAt c 1 k fo) 2 3 [4, 5, 6, 7, 8, 9, 10, 11, 12, 13, 14, 15, 16, 17, 18, 19, 20, 21, 22, 23, 24, 25, 26, 27, 28, 29, 30, 31]) $$ F_out_1 with ⟨T10, F_out_1⟩
  icases (bigSepL_pop (fun k : Fin 32 => sigRes m K c k) 3 4 [5, 6, 7, 8, 9, 10, 11, 12, 13, 14, 15, 16, 17, 18, 19, 20, 21, 22, 23, 24, 25, 26, 27, 28, 29, 30, 31]) $$ F_sigRes with ⟨T11, F_sigRes⟩
  icases (bigSepL_pop (fun k : Fin 32 => slotAt c 0 fb (opp k)) 3 4 [5, 6, 7, 8, 9, 10, 11, 12, 13, 14, 15, 16, 17, 18, 19, 20, 21, 22, 23, 24, 25, 26, 27, 28, 29, 30, 31]) $$ F_slot_0 with ⟨T12, F_slot_0⟩
  icases (bigSepL_pop (fun k : Fin 32 => slotAt c 1 fb (opp k)) 3 4 [5, 6, 7, 8, 9, 10, 11, 12, 13, 14, 15, 16, 17, 18, 19, 20, 21, 22, 23, 24, 25, 26, 27, 28, 29, 30, 31]) $$ F_slot_1 with ⟨T13, F_slot_1⟩
  icases (bigSepL_pop (fun k : Fin 32 => outAt c 0 k fo) 3 4 [5, 6, 7, 8, 9, 10, 11, 12, 13, 14, 15, 16, 17, 18, 19, 20, 21, 22, 23, 24, 25, 26, 27, 28, 29, 30, 31]) $$ F_out_0 with ⟨T14, F_out_0⟩
  icases (bigSepL_pop (fun k : Fin 32 => outAt c 1 k fo) 3 4 [5, 6, 7, 8, 9, 10, 11, 12, 13, 14, 15, 16, 17, 18, 19, 20, 21, 22, 23, 24, 25, 26, 27, 28, 29, 30, 31]) $$ F_out_1 with ⟨T15, F_out_1⟩
  icases (bigSepL_pop (fun k : Fin 32 => sigRes m K c k) 4 5 [6, 7, 8, 9, 10, 11, 12, 13, 14, 15, 16, 17, 18, 19, 20, 21, 22, 23, 24, 25, 26, 27, 28, 29, 30, 31]) $$ F_sigRes with ⟨T16, F_sigRes⟩
  icases (bigSepL_pop (fun k : Fin 32 => slotAt c 0 fb (opp k)) 4 5 [6, 7, 8, 9, 10, 11, 12, 13, 14, 15, 16, 17, 18, 19, 20, 21, 22, 23, 24, 25, 26, 27, 28, 29, 30, 31]) $$ F_slot_0 with ⟨T17, F_slot_0⟩
  icases (bigSepL_pop (fun k : Fin 32 => slotAt c 1 fb (opp k)) 4 5 [6, 7, 8, 9, 10, 11, 12, 13, 14, 15, 16, 17, 18, 19, 20, 21, 22, 23, 24, 25, 26, 27, 28, 29, 30, 31]) $$ F_slot_1 with ⟨T18, F_slot_1⟩
  icases (bigSepL_pop (fun k : Fin 32 => outAt c 0 k fo) 4 5 [6, 7, 8, 9, 10, 11, 12, 13, 14, 15, 16, 17, 18, 19, 20, 21, 22, 23, 24, 25, 26, 27, 28, 29, 30, 31]) $$ F_out_0 with ⟨T19, F_out_0⟩
  icases (bigSepL_pop (fun k : Fin 32 => outAt c 1 k fo) 4 5 [6, 7, 8, 9, 10, 11, 12, 13, 14, 15, 16, 17, 18, 19, 20, 21, 22, 23, 24, 25, 26, 27, 28, 29, 30, 31]) $$ F_out_1 with ⟨T20, F_out_1⟩
  icases (bigSepL_pop (fun k : Fin 32 => sigRes m K c k) 5 6 [7, 8, 9, 10, 11, 12, 13, 14, 15, 16, 17, 18, 19, 20, 21, 22, 23, 24, 25, 26, 27, 28, 29, 30, 31]) $$ F_sigRes with ⟨T21, F_sigRes⟩
  icases (bigSepL_pop (fun k : Fin 32 => slotAt c 0 fb (opp k)) 5 6 [7, 8, 9, 10, 11, 12, 13, 14, 15, 16, 17, 18, 19, 20, 21, 22, 23, 24, 25, 26, 27, 28, 29, 30, 31]) $$ F_slot_0 with ⟨T22, F_slot_0⟩
  icases (bigSepL_pop (fun k : Fin 32 => slotAt c 1 fb (opp k)) 5 6 [7, 8, 9, 10, 11, 12, 13, 14, 15, 16, 17, 18, 19, 20, 21, 22, 23, 24, 25, 26, 27, 28, 29, 30, 31]) $$ F_slot_1 with ⟨T23, F_slot_1⟩
  icases (bigSepL_pop (fun k : Fin 32 => outAt c 0 k fo) 5 6 [7, 8, 9, 10, 11, 12, 13, 14, 15, 16, 17, 18, 19, 20, 21, 22, 23, 24, 25, 26, 27, 28, 29, 30, 31]) $$ F_out_0 with ⟨T24, F_out_0⟩
  icases (bigSepL_pop (fun k : Fin 32 => outAt c 1 k fo) 5 6 [7, 8, 9, 10, 11, 12, 13, 14, 15, 16, 17, 18, 19, 20, 21, 22, 23, 24, 25, 26, 27, 28, 29, 30, 31]) $$ F_out_1 with ⟨T25, F_out_1⟩
  rw [owed_step_0 c, owed_step_1 c, owed_step_2 c, owed_step_3 c, owed_step_4 c]
  rw [wp_bind]
  iapply (part1_spec' m K c fo fb (owedAfter c 5) (W))
  isplitl [T1]
  · iexact T1
  isplitl [T2]
  · iexact T2
  isplitl [T3]
  · iexact T3
  isplitl [T4]
  · iexact T4
  isplitl [T5]
  · iexact T5
  isplitl [T6]
  · iexact T6
  isplitl [T7]
  · iexact T7
  isplitl [T8]
  · iexact T8
  isplitl [T9]
  · iexact T9
  isplitl [T10]
  · iexact T10
  isplitl [T11]
  · iexact T11
  isplitl [T12]
  · iexact T12
  isplitl [T13]
  · iexact T13
  isplitl [T14]
  · iexact T14
  isplitl [T15]
  · iexact T15
  isplitl [T16]
  · iexact T16
  isplitl [T17]
  · iexact T17
  isplitl [T18]
  · iexact T18
  isplitl [T19]
  · iexact T19
  isplitl [T20]
  · iexact T20
  isplitl [T21]
  · iexact T21
  isplitl [T22]
  · iexact T22
  isplitl [T23]
  · iexact T23
  isplitl [T24]
  · iexact T24
  isplitl [T25]
  · iexact T25
  isplitl [H_owes]
  · iexact H_owes
  iintro %v2 %v24 %x H_owes
  try dsimp only
  -- k0_part2
  icases (bigSepL_pop (fun k : Fin 32 => sigRes m K c k) 6 7 [8, 9, 10, 11, 12, 13, 14, 15, 16, 17, 18, 19, 20, 21, 22, 23, 24, 25, 26, 27, 28, 29, 30, 31]) $$ F_sigRes with ⟨T26, F_sigRes⟩
  icases (bigSepL_pop (fun k : Fin 32 => slotAt c 0 fb (opp k)) 6 7 [8, 9, 10, 11, 12, 13, 14, 15, 16, 17, 18, 19, 20, 21, 22, 23, 24, 25, 26, 27, 28, 29, 30, 31]) $$ F_slot_0 with ⟨T27, F_slot_0⟩
  icases (bigSepL_pop (fun k : Fin 32 => slotAt c 1 fb (opp k)) 6 7 [8, 9, 10, 11, 12, 13, 14, 15, 16, 17, 18, 19, 20, 21, 22, 23, 24, 25, 26, 27, 28, 29, 30, 31]) $$ F_slot_1 with ⟨T28, F_slot_1⟩
  icases (bigSepL_pop (fun k : Fin 32 => outAt c 0 k fo) 6 7 [8, 9, 10, 11, 12, 13, 14, 15, 16, 17, 18, 19, 20, 21, 22, 23, 24, 25, 26, 27, 28, 29, 30, 31]) $$ F_out_0 with ⟨T29, F_out_0⟩
  icases (bigSepL_pop (fun k : Fin 32 => outAt c 1 k fo) 6 7 [8, 9, 10, 11, 12, 13, 14, 15, 16, 17, 18, 19, 20, 21, 22, 23, 24, 25, 26, 27, 28, 29, 30, 31]) $$ F_out_1 with ⟨T30, F_out_1⟩
  icases (bigSepL_pop (fun k : Fin 32 => sigRes m K c k) 7 8 [9, 10, 11, 12, 13, 14, 15, 16, 17, 18, 19, 20, 21, 22, 23, 24, 25, 26, 27, 28, 29, 30, 31]) $$ F_sigRes with ⟨T31, F_sigRes⟩
  icases (bigSepL_pop (fun k : Fin 32 => slotAt c 0 fb (opp k)) 7 8 [9, 10, 11, 12, 13, 14, 15, 16, 17, 18, 19, 20, 21, 22, 23, 24, 25, 26, 27, 28, 29, 30, 31]) $$ F_slot_0 with ⟨T32, F_slot_0⟩
  icases (bigSepL_pop (fun k : Fin 32 => slotAt c 1 fb (opp k)) 7 8 [9, 10, 11, 12, 13, 14, 15, 16, 17, 18, 19, 20, 21, 22, 23, 24, 25, 26, 27, 28, 29, 30, 31]) $$ F_slot_1 with ⟨T33, F_slot_1⟩
  icases (bigSepL_pop (fun k : Fin 32 => outAt c 0 k fo) 7 8 [9, 10, 11, 12, 13, 14, 15, 16, 17, 18, 19, 20, 21, 22, 23, 24, 25, 26, 27, 28, 29, 30, 31]) $$ F_out_0 with ⟨T34, F_out_0⟩
  icases (bigSepL_pop (fun k : Fin 32 => outAt c 1 k fo) 7 8 [9, 10, 11, 12, 13, 14, 15, 16, 17, 18, 19, 20, 21, 22, 23, 24, 25, 26, 27, 28, 29, 30, 31]) $$ F_out_1 with ⟨T35, F_out_1⟩
  icases (bigSepL_pop (fun k : Fin 32 => sigRes m K c k) 8 9 [10, 11, 12, 13, 14, 15, 16, 17, 18, 19, 20, 21, 22, 23, 24, 25, 26, 27, 28, 29, 30, 31]) $$ F_sigRes with ⟨T36, F_sigRes⟩
  icases (bigSepL_pop (fun k : Fin 32 => slotAt c 0 fb (opp k)) 8 9 [10, 11, 12, 13, 14, 15, 16, 17, 18, 19, 20, 21, 22, 23, 24, 25, 26, 27, 28, 29, 30, 31]) $$ F_slot_0 with ⟨T37, F_slot_0⟩
  icases (bigSepL_pop (fun k : Fin 32 => slotAt c 1 fb (opp k)) 8 9 [10, 11, 12, 13, 14, 15, 16, 17, 18, 19, 20, 21, 22, 23, 24, 25, 26, 27, 28, 29, 30, 31]) $$ F_slot_1 with ⟨T38, F_slot_1⟩
  icases (bigSepL_pop (fun k : Fin 32 => outAt c 0 k fo) 8 9 [10, 11, 12, 13, 14, 15, 16, 17, 18, 19, 20, 21, 22, 23, 24, 25, 26, 27, 28, 29, 30, 31]) $$ F_out_0 with ⟨T39, F_out_0⟩
  icases (bigSepL_pop (fun k : Fin 32 => outAt c 1 k fo) 8 9 [10, 11, 12, 13, 14, 15, 16, 17, 18, 19, 20, 21, 22, 23, 24, 25, 26, 27, 28, 29, 30, 31]) $$ F_out_1 with ⟨T40, F_out_1⟩
  icases (bigSepL_pop (fun k : Fin 32 => sigRes m K c k) 9 10 [11, 12, 13, 14, 15, 16, 17, 18, 19, 20, 21, 22, 23, 24, 25, 26, 27, 28, 29, 30, 31]) $$ F_sigRes with ⟨T41, F_sigRes⟩
  icases (bigSepL_pop (fun k : Fin 32 => slotAt c 0 fb (opp k)) 9 10 [11, 12, 13, 14, 15, 16, 17, 18, 19, 20, 21, 22, 23, 24, 25, 26, 27, 28, 29, 30, 31]) $$ F_slot_0 with ⟨T42, F_slot_0⟩
  icases (bigSepL_pop (fun k : Fin 32 => slotAt c 1 fb (opp k)) 9 10 [11, 12, 13, 14, 15, 16, 17, 18, 19, 20, 21, 22, 23, 24, 25, 26, 27, 28, 29, 30, 31]) $$ F_slot_1 with ⟨T43, F_slot_1⟩
  icases (bigSepL_pop (fun k : Fin 32 => outAt c 0 k fo) 9 10 [11, 12, 13, 14, 15, 16, 17, 18, 19, 20, 21, 22, 23, 24, 25, 26, 27, 28, 29, 30, 31]) $$ F_out_0 with ⟨T44, F_out_0⟩
  icases (bigSepL_pop (fun k : Fin 32 => outAt c 1 k fo) 9 10 [11, 12, 13, 14, 15, 16, 17, 18, 19, 20, 21, 22, 23, 24, 25, 26, 27, 28, 29, 30, 31]) $$ F_out_1 with ⟨T45, F_out_1⟩
  icases (bigSepL_pop (fun k : Fin 32 => sigRes m K c k) 10 11 [12, 13, 14, 15, 16, 17, 18, 19, 20, 21, 22, 23, 24, 25, 26, 27, 28, 29, 30, 31]) $$ F_sigRes with ⟨T46, F_sigRes⟩
  icases (bigSepL_pop (fun k : Fin 32 => slotAt c 0 fb (opp k)) 10 11 [12, 13, 14, 15, 16, 17, 18, 19, 20, 21, 22, 23, 24, 25, 26, 27, 28, 29, 30, 31]) $$ F_slot_0 with ⟨T47, F_slot_0⟩
  icases (bigSepL_pop (fun k : Fin 32 => slotAt c 1 fb (opp k)) 10 11 [12, 13, 14, 15, 16, 17, 18, 19, 20, 21, 22, 23, 24, 25, 26, 27, 28, 29, 30, 31]) $$ F_slot_1 with ⟨T48, F_slot_1⟩
  icases (bigSepL_pop (fun k : Fin 32 => outAt c 0 k fo) 10 11 [12, 13, 14, 15, 16, 17, 18, 19, 20, 21, 22, 23, 24, 25, 26, 27, 28, 29, 30, 31]) $$ F_out_0 with ⟨T49, F_out_0⟩
  icases (bigSepL_pop (fun k : Fin 32 => outAt c 1 k fo) 10 11 [12, 13, 14, 15, 16, 17, 18, 19, 20, 21, 22, 23, 24, 25, 26, 27, 28, 29, 30, 31]) $$ F_out_1 with ⟨T50, F_out_1⟩
  icases (bigSepL_pop (fun k : Fin 32 => sigRes m K c k) 11 12 [13, 14, 15, 16, 17, 18, 19, 20, 21, 22, 23, 24, 25, 26, 27, 28, 29, 30, 31]) $$ F_sigRes with ⟨T51, F_sigRes⟩
  icases (bigSepL_pop (fun k : Fin 32 => slotAt c 0 fb (opp k)) 11 12 [13, 14, 15, 16, 17, 18, 19, 20, 21, 22, 23, 24, 25, 26, 27, 28, 29, 30, 31]) $$ F_slot_0 with ⟨T52, F_slot_0⟩
  icases (bigSepL_pop (fun k : Fin 32 => slotAt c 1 fb (opp k)) 11 12 [13, 14, 15, 16, 17, 18, 19, 20, 21, 22, 23, 24, 25, 26, 27, 28, 29, 30, 31]) $$ F_slot_1 with ⟨T53, F_slot_1⟩
  icases (bigSepL_pop (fun k : Fin 32 => outAt c 0 k fo) 11 12 [13, 14, 15, 16, 17, 18, 19, 20, 21, 22, 23, 24, 25, 26, 27, 28, 29, 30, 31]) $$ F_out_0 with ⟨T54, F_out_0⟩
  icases (bigSepL_pop (fun k : Fin 32 => outAt c 1 k fo) 11 12 [13, 14, 15, 16, 17, 18, 19, 20, 21, 22, 23, 24, 25, 26, 27, 28, 29, 30, 31]) $$ F_out_1 with ⟨T55, F_out_1⟩
  rw [owed_step_5 c, owed_step_6 c, owed_step_7 c, owed_step_8 c, owed_step_9 c, owed_step_10 c]
  rw [wp_bind]
  iapply (part2_spec' m K c _ _ _ fo fb (owedAfter c 11) (W))
  isplitl [T26]
  · iexact T26
  isplitl [T27]
  · iexact T27
  isplitl [T28]
  · iexact T28
  isplitl [T29]
  · iexact T29
  isplitl [T30]
  · iexact T30
  isplitl [T31]
  · iexact T31
  isplitl [T32]
  · iexact T32
  isplitl [T33]
  · iexact T33
  isplitl [T34]
  · iexact T34
  isplitl [T35]
  · iexact T35
  isplitl [T36]
  · iexact T36
  isplitl [T37]
  · iexact T37
  isplitl [T38]
  · iexact T38
  isplitl [T39]
  · iexact T39
  isplitl [T40]
  · iexact T40
  isplitl [T41]
  · iexact T41
  isplitl [T42]
  · iexact T42
  isplitl [T43]
  · iexact T43
  isplitl [T44]
  · iexact T44
  isplitl [T45]
  · iexact T45
  isplitl [T46]
  · iexact T46
  isplitl [T47]
  · iexact T47
  isplitl [T48]
  · iexact T48
  isplitl [T49]
  · iexact T49
  isplitl [T50]
  · iexact T50
  isplitl [T51]
  · iexact T51
  isplitl [T52]
  · iexact T52
  isplitl [T53]
  · iexact T53
  isplitl [T54]
  · iexact T54
  isplitl [T55]
  · iexact T55
  isplitl [H_owes]
  · iexact H_owes
  iintro %r H_owes
  obtain ⟨v48, c32_i32_44⟩ := r
  try dsimp only
  -- k0_part3
  icases (bigSepL_pop (fun k : Fin 32 => sigRes m K c k) 12 13 [14, 15, 16, 17, 18, 19, 20, 21, 22, 23, 24, 25, 26, 27, 28, 29, 30, 31]) $$ F_sigRes with ⟨T56, F_sigRes⟩
  icases (bigSepL_pop (fun k : Fin 32 => slotAt c 0 fb (opp k)) 12 13 [14, 15, 16, 17, 18, 19, 20, 21, 22, 23, 24, 25, 26, 27, 28, 29, 30, 31]) $$ F_slot_0 with ⟨T57, F_slot_0⟩
  icases (bigSepL_pop (fun k : Fin 32 => slotAt c 1 fb (opp k)) 12 13 [14, 15, 16, 17, 18, 19, 20, 21, 22, 23, 24, 25, 26, 27, 28, 29, 30, 31]) $$ F_slot_1 with ⟨T58, F_slot_1⟩
  icases (bigSepL_pop (fun k : Fin 32 => outAt c 0 k fo) 12 13 [14, 15, 16, 17, 18, 19, 20, 21, 22, 23, 24, 25, 26, 27, 28, 29, 30, 31]) $$ F_out_0 with ⟨T59, F_out_0⟩
  icases (bigSepL_pop (fun k : Fin 32 => outAt c 1 k fo) 12 13 [14, 15, 16, 17, 18, 19, 20, 21, 22, 23, 24, 25, 26, 27, 28, 29, 30, 31]) $$ F_out_1 with ⟨T60, F_out_1⟩
  icases (bigSepL_pop (fun k : Fin 32 => sigRes m K c k) 13 14 [15, 16, 17, 18, 19, 20, 21, 22, 23, 24, 25, 26, 27, 28, 29, 30, 31]) $$ F_sigRes with ⟨T61, F_sigRes⟩
  icases (bigSepL_pop (fun k : Fin 32 => slotAt c 0 fb (opp k)) 13 14 [15, 16, 17, 18, 19, 20, 21, 22, 23, 24, 25, 26, 27, 28, 29, 30, 31]) $$ F_slot_0 with ⟨T62, F_slot_0⟩
  icases (bigSepL_pop (fun k : Fin 32 => slotAt c 1 fb (opp k)) 13 14 [15, 16, 17, 18, 19, 20, 21, 22, 23, 24, 25, 26, 27, 28, 29, 30, 31]) $$ F_slot_1 with ⟨T63, F_slot_1⟩
  icases (bigSepL_pop (fun k : Fin 32 => outAt c 0 k fo) 13 14 [15, 16, 17, 18, 19, 20, 21, 22, 23, 24, 25, 26, 27, 28, 29, 30, 31]) $$ F_out_0 with ⟨T64, F_out_0⟩
  icases (bigSepL_pop (fun k : Fin 32 => outAt c 1 k fo) 13 14 [15, 16, 17, 18, 19, 20, 21, 22, 23, 24, 25, 26, 27, 28, 29, 30, 31]) $$ F_out_1 with ⟨T65, F_out_1⟩
  icases (bigSepL_pop (fun k : Fin 32 => sigRes m K c k) 14 15 [16, 17, 18, 19, 20, 21, 22, 23, 24, 25, 26, 27, 28, 29, 30, 31]) $$ F_sigRes with ⟨T66, F_sigRes⟩
  icases (bigSepL_pop (fun k : Fin 32 => slotAt c 0 fb (opp k)) 14 15 [16, 17, 18, 19, 20, 21, 22, 23, 24, 25, 26, 27, 28, 29, 30, 31]) $$ F_slot_0 with ⟨T67, F_slot_0⟩
  icases (bigSepL_pop (fun k : Fin 32 => slotAt c 1 fb (opp k)) 14 15 [16, 17, 18, 19, 20, 21, 22, 23, 24, 25, 26, 27, 28, 29, 30, 31]) $$ F_slot_1 with ⟨T68, F_slot_1⟩
  icases (bigSepL_pop (fun k : Fin 32 => outAt c 0 k fo) 14 15 [16, 17, 18, 19, 20, 21, 22, 23, 24, 25, 26, 27, 28, 29, 30, 31]) $$ F_out_0 with ⟨T69, F_out_0⟩
  icases (bigSepL_pop (fun k : Fin 32 => outAt c 1 k fo) 14 15 [16, 17, 18, 19, 20, 21, 22, 23, 24, 25, 26, 27, 28, 29, 30, 31]) $$ F_out_1 with ⟨T70, F_out_1⟩
  icases (bigSepL_pop (fun k : Fin 32 => sigRes m K c k) 15 16 [17, 18, 19, 20, 21, 22, 23, 24, 25, 26, 27, 28, 29, 30, 31]) $$ F_sigRes with ⟨T71, F_sigRes⟩
  icases (bigSepL_pop (fun k : Fin 32 => slotAt c 0 fb (opp k)) 15 16 [17, 18, 19, 20, 21, 22, 23, 24, 25, 26, 27, 28, 29, 30, 31]) $$ F_slot_0 with ⟨T72, F_slot_0⟩
  icases (bigSepL_pop (fun k : Fin 32 => slotAt c 1 fb (opp k)) 15 16 [17, 18, 19, 20, 21, 22, 23, 24, 25, 26, 27, 28, 29, 30, 31]) $$ F_slot_1 with ⟨T73, F_slot_1⟩
  icases (bigSepL_pop (fun k : Fin 32 => outAt c 0 k fo) 15 16 [17, 18, 19, 20, 21, 22, 23, 24, 25, 26, 27, 28, 29, 30, 31]) $$ F_out_0 with ⟨T74, F_out_0⟩
  icases (bigSepL_pop (fun k : Fin 32 => outAt c 1 k fo) 15 16 [17, 18, 19, 20, 21, 22, 23, 24, 25, 26, 27, 28, 29, 30, 31]) $$ F_out_1 with ⟨T75, F_out_1⟩
  icases (bigSepL_pop (fun k : Fin 32 => sigRes m K c k) 16 17 [18, 19, 20, 21, 22, 23, 24, 25, 26, 27, 28, 29, 30, 31]) $$ F_sigRes with ⟨T76, F_sigRes⟩
  icases (bigSepL_pop (fun k : Fin 32 => slotAt c 0 fb (opp k)) 16 17 [18, 19, 20, 21, 22, 23, 24, 25, 26, 27, 28, 29, 30, 31]) $$ F_slot_0 with ⟨T77, F_slot_0⟩
  icases (bigSepL_pop (fun k : Fin 32 => slotAt c 1 fb (opp k)) 16 17 [18, 19, 20, 21, 22, 23, 24, 25, 26, 27, 28, 29, 30, 31]) $$ F_slot_1 with ⟨T78, F_slot_1⟩
  icases (bigSepL_pop (fun k : Fin 32 => outAt c 0 k fo) 16 17 [18, 19, 20, 21, 22, 23, 24, 25, 26, 27, 28, 29, 30, 31]) $$ F_out_0 with ⟨T79, F_out_0⟩
  icases (bigSepL_pop (fun k : Fin 32 => outAt c 1 k fo) 16 17 [18, 19, 20, 21, 22, 23, 24, 25, 26, 27, 28, 29, 30, 31]) $$ F_out_1 with ⟨T80, F_out_1⟩
  icases (bigSepL_pop (fun k : Fin 32 => sigRes m K c k) 17 18 [19, 20, 21, 22, 23, 24, 25, 26, 27, 28, 29, 30, 31]) $$ F_sigRes with ⟨T81, F_sigRes⟩
  icases (bigSepL_pop (fun k : Fin 32 => slotAt c 0 fb (opp k)) 17 18 [19, 20, 21, 22, 23, 24, 25, 26, 27, 28, 29, 30, 31]) $$ F_slot_0 with ⟨T82, F_slot_0⟩
  icases (bigSepL_pop (fun k : Fin 32 => slotAt c 1 fb (opp k)) 17 18 [19, 20, 21, 22, 23, 24, 25, 26, 27, 28, 29, 30, 31]) $$ F_slot_1 with ⟨T83, F_slot_1⟩
  icases (bigSepL_pop (fun k : Fin 32 => outAt c 0 k fo) 17 18 [19, 20, 21, 22, 23, 24, 25, 26, 27, 28, 29, 30, 31]) $$ F_out_0 with ⟨T84, F_out_0⟩
  icases (bigSepL_pop (fun k : Fin 32 => outAt c 1 k fo) 17 18 [19, 20, 21, 22, 23, 24, 25, 26, 27, 28, 29, 30, 31]) $$ F_out_1 with ⟨T85, F_out_1⟩
  rw [owed_step_11 c, owed_step_12 c, owed_step_13 c, owed_step_14 c, owed_step_15 c, owed_step_16 c]
  rw [wp_bind]
  iapply (part3_spec' m K c _ _ _ fo fb (owedAfter c 17) (W))
  isplitl [T56]
  · iexact T56
  isplitl [T57]
  · iexact T57
  isplitl [T58]
  · iexact T58
  isplitl [T59]
  · iexact T59
  isplitl [T60]
  · iexact T60
  isplitl [T61]
  · iexact T61
  isplitl [T62]
  · iexact T62
  isplitl [T63]
  · iexact T63
  isplitl [T64]
  · iexact T64
  isplitl [T65]
  · iexact T65
  isplitl [T66]
  · iexact T66
  isplitl [T67]
  · iexact T67
  isplitl [T68]
  · iexact T68
  isplitl [T69]
  · iexact T69
  isplitl [T70]
  · iexact T70
  isplitl [T71]
  · iexact T71
  isplitl [T72]
  · iexact T72
  isplitl [T73]
  · iexact T73
  isplitl [T74]
  · iexact T74
  isplitl [T75]
  · iexact T75
  isplitl [T76]
  · iexact T76
  isplitl [T77]
  · iexact T77
  isplitl [T78]
  · iexact T78
  isplitl [T79]
  · iexact T79
  isplitl [T80]
  · iexact T80
  isplitl [T81]
  · iexact T81
  isplitl [T82]
  · iexact T82
  isplitl [T83]
  · iexact T83
  isplitl [T84]
  · iexact T84
  isplitl [T85]
  · iexact T85
  isplitl [H_owes]
  · iexact H_owes
  iintro %r H_owes
  obtain ⟨v72, c32_i32_68⟩ := r
  try dsimp only
  -- k0_part4
  icases (bigSepL_pop (fun k : Fin 32 => sigRes m K c k) 18 19 [20, 21, 22, 23, 24, 25, 26, 27, 28, 29, 30, 31]) $$ F_sigRes with ⟨T86, F_sigRes⟩
  icases (bigSepL_pop (fun k : Fin 32 => slotAt c 0 fb (opp k)) 18 19 [20, 21, 22, 23, 24, 25, 26, 27, 28, 29, 30, 31]) $$ F_slot_0 with ⟨T87, F_slot_0⟩
  icases (bigSepL_pop (fun k : Fin 32 => slotAt c 1 fb (opp k)) 18 19 [20, 21, 22, 23, 24, 25, 26, 27, 28, 29, 30, 31]) $$ F_slot_1 with ⟨T88, F_slot_1⟩
  icases (bigSepL_pop (fun k : Fin 32 => outAt c 0 k fo) 18 19 [20, 21, 22, 23, 24, 25, 26, 27, 28, 29, 30, 31]) $$ F_out_0 with ⟨T89, F_out_0⟩
  icases (bigSepL_pop (fun k : Fin 32 => outAt c 1 k fo) 18 19 [20, 21, 22, 23, 24, 25, 26, 27, 28, 29, 30, 31]) $$ F_out_1 with ⟨T90, F_out_1⟩
  icases (bigSepL_pop (fun k : Fin 32 => sigRes m K c k) 19 20 [21, 22, 23, 24, 25, 26, 27, 28, 29, 30, 31]) $$ F_sigRes with ⟨T91, F_sigRes⟩
  icases (bigSepL_pop (fun k : Fin 32 => slotAt c 0 fb (opp k)) 19 20 [21, 22, 23, 24, 25, 26, 27, 28, 29, 30, 31]) $$ F_slot_0 with ⟨T92, F_slot_0⟩
  icases (bigSepL_pop (fun k : Fin 32 => slotAt c 1 fb (opp k)) 19 20 [21, 22, 23, 24, 25, 26, 27, 28, 29, 30, 31]) $$ F_slot_1 with ⟨T93, F_slot_1⟩
  icases (bigSepL_pop (fun k : Fin 32 => outAt c 0 k fo) 19 20 [21, 22, 23, 24, 25, 26, 27, 28, 29, 30, 31]) $$ F_out_0 with ⟨T94, F_out_0⟩
  icases (bigSepL_pop (fun k : Fin 32 => outAt c 1 k fo) 19 20 [21, 22, 23, 24, 25, 26, 27, 28, 29, 30, 31]) $$ F_out_1 with ⟨T95, F_out_1⟩
  icases (bigSepL_pop (fun k : Fin 32 => sigRes m K c k) 20 21 [22, 23, 24, 25, 26, 27, 28, 29, 30, 31]) $$ F_sigRes with ⟨T96, F_sigRes⟩
  icases (bigSepL_pop (fun k : Fin 32 => slotAt c 0 fb (opp k)) 20 21 [22, 23, 24, 25, 26, 27, 28, 29, 30, 31]) $$ F_slot_0 with ⟨T97, F_slot_0⟩
  icases (bigSepL_pop (fun k : Fin 32 => slotAt c 1 fb (opp k)) 20 21 [22, 23, 24, 25, 26, 27, 28, 29, 30, 31]) $$ F_slot_1 with ⟨T98, F_slot_1⟩
  icases (bigSepL_pop (fun k : Fin 32 => outAt c 0 k fo) 20 21 [22, 23, 24, 25, 26, 27, 28, 29, 30, 31]) $$ F_out_0 with ⟨T99, F_out_0⟩
  icases (bigSepL_pop (fun k : Fin 32 => outAt c 1 k fo) 20 21 [22, 23, 24, 25, 26, 27, 28, 29, 30, 31]) $$ F_out_1 with ⟨T100, F_out_1⟩
  icases (bigSepL_pop (fun k : Fin 32 => sigRes m K c k) 21 22 [23, 24, 25, 26, 27, 28, 29, 30, 31]) $$ F_sigRes with ⟨T101, F_sigRes⟩
  icases (bigSepL_pop (fun k : Fin 32 => slotAt c 0 fb (opp k)) 21 22 [23, 24, 25, 26, 27, 28, 29, 30, 31]) $$ F_slot_0 with ⟨T102, F_slot_0⟩
  icases (bigSepL_pop (fun k : Fin 32 => slotAt c 1 fb (opp k)) 21 22 [23, 24, 25, 26, 27, 28, 29, 30, 31]) $$ F_slot_1 with ⟨T103, F_slot_1⟩
  icases (bigSepL_pop (fun k : Fin 32 => outAt c 0 k fo) 21 22 [23, 24, 25, 26, 27, 28, 29, 30, 31]) $$ F_out_0 with ⟨T104, F_out_0⟩
  icases (bigSepL_pop (fun k : Fin 32 => outAt c 1 k fo) 21 22 [23, 24, 25, 26, 27, 28, 29, 30, 31]) $$ F_out_1 with ⟨T105, F_out_1⟩
  icases (bigSepL_pop (fun k : Fin 32 => sigRes m K c k) 22 23 [24, 25, 26, 27, 28, 29, 30, 31]) $$ F_sigRes with ⟨T106, F_sigRes⟩
  icases (bigSepL_pop (fun k : Fin 32 => slotAt c 0 fb (opp k)) 22 23 [24, 25, 26, 27, 28, 29, 30, 31]) $$ F_slot_0 with ⟨T107, F_slot_0⟩
  icases (bigSepL_pop (fun k : Fin 32 => slotAt c 1 fb (opp k)) 22 23 [24, 25, 26, 27, 28, 29, 30, 31]) $$ F_slot_1 with ⟨T108, F_slot_1⟩
  icases (bigSepL_pop (fun k : Fin 32 => outAt c 0 k fo) 22 23 [24, 25, 26, 27, 28, 29, 30, 31]) $$ F_out_0 with ⟨T109, F_out_0⟩
  icases (bigSepL_pop (fun k : Fin 32 => outAt c 1 k fo) 22 23 [24, 25, 26, 27, 28, 29, 30, 31]) $$ F_out_1 with ⟨T110, F_out_1⟩
  icases (bigSepL_pop (fun k : Fin 32 => sigRes m K c k) 23 24 [25, 26, 27, 28, 29, 30, 31]) $$ F_sigRes with ⟨T111, F_sigRes⟩
  icases (bigSepL_pop (fun k : Fin 32 => slotAt c 0 fb (opp k)) 23 24 [25, 26, 27, 28, 29, 30, 31]) $$ F_slot_0 with ⟨T112, F_slot_0⟩
  icases (bigSepL_pop (fun k : Fin 32 => slotAt c 1 fb (opp k)) 23 24 [25, 26, 27, 28, 29, 30, 31]) $$ F_slot_1 with ⟨T113, F_slot_1⟩
  icases (bigSepL_pop (fun k : Fin 32 => outAt c 0 k fo) 23 24 [25, 26, 27, 28, 29, 30, 31]) $$ F_out_0 with ⟨T114, F_out_0⟩
  icases (bigSepL_pop (fun k : Fin 32 => outAt c 1 k fo) 23 24 [25, 26, 27, 28, 29, 30, 31]) $$ F_out_1 with ⟨T115, F_out_1⟩
  rw [owed_step_17 c, owed_step_18 c, owed_step_19 c, owed_step_20 c, owed_step_21 c, owed_step_22 c]
  rw [wp_bind]
  iapply (part4_spec' m K c _ _ _ fo fb (owedAfter c 23) (W))
  isplitl [T86]
  · iexact T86
  isplitl [T87]
  · iexact T87
  isplitl [T88]
  · iexact T88
  isplitl [T89]
  · iexact T89
  isplitl [T90]
  · iexact T90
  isplitl [T91]
  · iexact T91
  isplitl [T92]
  · iexact T92
  isplitl [T93]
  · iexact T93
  isplitl [T94]
  · iexact T94
  isplitl [T95]
  · iexact T95
  isplitl [T96]
  · iexact T96
  isplitl [T97]
  · iexact T97
  isplitl [T98]
  · iexact T98
  isplitl [T99]
  · iexact T99
  isplitl [T100]
  · iexact T100
  isplitl [T101]
  · iexact T101
  isplitl [T102]
  · iexact T102
  isplitl [T103]
  · iexact T103
  isplitl [T104]
  · iexact T104
  isplitl [T105]
  · iexact T105
  isplitl [T106]
  · iexact T106
  isplitl [T107]
  · iexact T107
  isplitl [T108]
  · iexact T108
  isplitl [T109]
  · iexact T109
  isplitl [T110]
  · iexact T110
  isplitl [T111]
  · iexact T111
  isplitl [T112]
  · iexact T112
  isplitl [T113]
  · iexact T113
  isplitl [T114]
  · iexact T114
  isplitl [T115]
  · iexact T115
  isplitl [H_owes]
  · iexact H_owes
  iintro %r H_owes
  obtain ⟨v96, c32_i32_92⟩ := r
  try dsimp only
  -- k0_part5
  icases (bigSepL_pop (fun k : Fin 32 => sigRes m K c k) 24 25 [26, 27, 28, 29, 30, 31]) $$ F_sigRes with ⟨T116, F_sigRes⟩
  icases (bigSepL_pop (fun k : Fin 32 => slotAt c 0 fb (opp k)) 24 25 [26, 27, 28, 29, 30, 31]) $$ F_slot_0 with ⟨T117, F_slot_0⟩
  icases (bigSepL_pop (fun k : Fin 32 => slotAt c 1 fb (opp k)) 24 25 [26, 27, 28, 29, 30, 31]) $$ F_slot_1 with ⟨T118, F_slot_1⟩
  icases (bigSepL_pop (fun k : Fin 32 => outAt c 0 k fo) 24 25 [26, 27, 28, 29, 30, 31]) $$ F_out_0 with ⟨T119, F_out_0⟩
  icases (bigSepL_pop (fun k : Fin 32 => outAt c 1 k fo) 24 25 [26, 27, 28, 29, 30, 31]) $$ F_out_1 with ⟨T120, F_out_1⟩
  icases (bigSepL_pop (fun k : Fin 32 => sigRes m K c k) 25 26 [27, 28, 29, 30, 31]) $$ F_sigRes with ⟨T121, F_sigRes⟩
  icases (bigSepL_pop (fun k : Fin 32 => slotAt c 0 fb (opp k)) 25 26 [27, 28, 29, 30, 31]) $$ F_slot_0 with ⟨T122, F_slot_0⟩
  icases (bigSepL_pop (fun k : Fin 32 => slotAt c 1 fb (opp k)) 25 26 [27, 28, 29, 30, 31]) $$ F_slot_1 with ⟨T123, F_slot_1⟩
  icases (bigSepL_pop (fun k : Fin 32 => outAt c 0 k fo) 25 26 [27, 28, 29, 30, 31]) $$ F_out_0 with ⟨T124, F_out_0⟩
  icases (bigSepL_pop (fun k : Fin 32 => outAt c 1 k fo) 25 26 [27, 28, 29, 30, 31]) $$ F_out_1 with ⟨T125, F_out_1⟩
  icases (bigSepL_pop (fun k : Fin 32 => sigRes m K c k) 26 27 [28, 29, 30, 31]) $$ F_sigRes with ⟨T126, F_sigRes⟩
  icases (bigSepL_pop (fun k : Fin 32 => slotAt c 0 fb (opp k)) 26 27 [28, 29, 30, 31]) $$ F_slot_0 with ⟨T127, F_slot_0⟩
  icases (bigSepL_pop (fun k : Fin 32 => slotAt c 1 fb (opp k)) 26 27 [28, 29, 30, 31]) $$ F_slot_1 with ⟨T128, F_slot_1⟩
  icases (bigSepL_pop (fun k : Fin 32 => outAt c 0 k fo) 26 27 [28, 29, 30, 31]) $$ F_out_0 with ⟨T129, F_out_0⟩
  icases (bigSepL_pop (fun k : Fin 32 => outAt c 1 k fo) 26 27 [28, 29, 30, 31]) $$ F_out_1 with ⟨T130, F_out_1⟩
  icases (bigSepL_pop (fun k : Fin 32 => sigRes m K c k) 27 28 [29, 30, 31]) $$ F_sigRes with ⟨T131, F_sigRes⟩
  icases (bigSepL_pop (fun k : Fin 32 => slotAt c 0 fb (opp k)) 27 28 [29, 30, 31]) $$ F_slot_0 with ⟨T132, F_slot_0⟩
  icases (bigSepL_pop (fun k : Fin 32 => slotAt c 1 fb (opp k)) 27 28 [29, 30, 31]) $$ F_slot_1 with ⟨T133, F_slot_1⟩
  icases (bigSepL_pop (fun k : Fin 32 => outAt c 0 k fo) 27 28 [29, 30, 31]) $$ F_out_0 with ⟨T134, F_out_0⟩
  icases (bigSepL_pop (fun k : Fin 32 => outAt c 1 k fo) 27 28 [29, 30, 31]) $$ F_out_1 with ⟨T135, F_out_1⟩
  icases (bigSepL_pop (fun k : Fin 32 => sigRes m K c k) 28 29 [30, 31]) $$ F_sigRes with ⟨T136, F_sigRes⟩
  icases (bigSepL_pop (fun k : Fin 32 => slotAt c 0 fb (opp k)) 28 29 [30, 31]) $$ F_slot_0 with ⟨T137, F_slot_0⟩
  icases (bigSepL_pop (fun k : Fin 32 => slotAt c 1 fb (opp k)) 28 29 [30, 31]) $$ F_slot_1 with ⟨T138, F_slot_1⟩
  icases (bigSepL_pop (fun k : Fin 32 => outAt c 0 k fo) 28 29 [30, 31]) $$ F_out_0 with ⟨T139, F_out_0⟩
  icases (bigSepL_pop (fun k : Fin 32 => outAt c 1 k fo) 28 29 [30, 31]) $$ F_out_1 with ⟨T140, F_out_1⟩
  icases (bigSepL_pop (fun k : Fin 32 => sigRes m K c k) 29 30 [31]) $$ F_sigRes with ⟨T141, F_sigRes⟩
  icases (bigSepL_pop (fun k : Fin 32 => slotAt c 0 fb (opp k)) 29 30 [31]) $$ F_slot_0 with ⟨T142, F_slot_0⟩
  icases (bigSepL_pop (fun k : Fin 32 => slotAt c 1 fb (opp k)) 29 30 [31]) $$ F_slot_1 with ⟨T143, F_slot_1⟩
  icases (bigSepL_pop (fun k : Fin 32 => outAt c 0 k fo) 29 30 [31]) $$ F_out_0 with ⟨T144, F_out_0⟩
  icases (bigSepL_pop (fun k : Fin 32 => outAt c 1 k fo) 29 30 [31]) $$ F_out_1 with ⟨T145, F_out_1⟩
  rw [owed_step_23 c, owed_step_24 c, owed_step_25 c, owed_step_26 c, owed_step_27 c, owed_step_28 c]
  rw [wp_bind]
  iapply (part5_spec' m K c _ _ _ fo fb (owedAfter c 29) (W))
  isplitl [T116]
  · iexact T116
  isplitl [T117]
  · iexact T117
  isplitl [T118]
  · iexact T118
  isplitl [T119]
  · iexact T119
  isplitl [T120]
  · iexact T120
  isplitl [T121]
  · iexact T121
  isplitl [T122]
  · iexact T122
  isplitl [T123]
  · iexact T123
  isplitl [T124]
  · iexact T124
  isplitl [T125]
  · iexact T125
  isplitl [T126]
  · iexact T126
  isplitl [T127]
  · iexact T127
  isplitl [T128]
  · iexact T128
  isplitl [T129]
  · iexact T129
  isplitl [T130]
  · iexact T130
  isplitl [T131]
  · iexact T131
  isplitl [T132]
  · iexact T132
  isplitl [T133]
  · iexact T133
  isplitl [T134]
  · iexact T134
  isplitl [T135]
  · iexact T135
  isplitl [T136]
  · iexact T136
  isplitl [T137]
  · iexact T137
  isplitl [T138]
  · iexact T138
  isplitl [T139]
  · iexact T139
  isplitl [T140]
  · iexact T140
  isplitl [T141]
  · iexact T141
  isplitl [T142]
  · iexact T142
  isplitl [T143]
  · iexact T143
  isplitl [T144]
  · iexact T144
  isplitl [T145]
  · iexact T145
  isplitl [H_owes]
  · iexact H_owes
  iintro %r H_owes
  obtain ⟨v120, c32_i32_116⟩ := r
  try dsimp only
  -- k0_part6
  icases (bigSepL_pop (fun k : Fin 32 => sigRes m K c k) 30 31 []) $$ F_sigRes with ⟨T146, F_sigRes⟩
  icases (bigSepL_pop (fun k : Fin 32 => slotAt c 0 fb (opp k)) 30 31 []) $$ F_slot_0 with ⟨T147, F_slot_0⟩
  icases (bigSepL_pop (fun k : Fin 32 => slotAt c 1 fb (opp k)) 30 31 []) $$ F_slot_1 with ⟨T148, F_slot_1⟩
  icases (bigSepL_pop (fun k : Fin 32 => outAt c 0 k fo) 30 31 []) $$ F_out_0 with ⟨T149, F_out_0⟩
  icases (bigSepL_pop (fun k : Fin 32 => outAt c 1 k fo) 30 31 []) $$ F_out_1 with ⟨T150, F_out_1⟩
  ihave T151 := (bigSepL_one (fun k : Fin 32 => sigRes m K c k) 31) $$ F_sigRes
  ihave T152 := (bigSepL_one (fun k : Fin 32 => slotAt c 0 fb (opp k)) 31) $$ F_slot_0
  ihave T153 := (bigSepL_one (fun k : Fin 32 => slotAt c 1 fb (opp k)) 31) $$ F_slot_1
  ihave T154 := (bigSepL_one (fun k : Fin 32 => outAt c 0 k fo) 31) $$ F_out_0
  ihave T155 := (bigSepL_one (fun k : Fin 32 => outAt c 1 k fo) 31) $$ F_out_1
  ihave T156 := (bigSepL_one (fun k : Fin 32 => slotAt c 0 fb (opp k)) 0) $$ F_slot0_0
  rw [owed_step_29 c, owed_step_30 c]
  rw [wp_bind]
  iapply (part6_spec' m K c _ _ _ fo fb f3 (owedAfter c 31) (mayWait_bar31 (F := F) c) (W))
  isplitl [T146]
  · iexact T146
  isplitl [T147]
  · iexact T147
  isplitl [T148]
  · iexact T148
  isplitl [T149]
  · iexact T149
  isplitl [T150]
  · iexact T150
  isplitl [T151]
  · iexact T151
  isplitl [T152]
  · iexact T152
  isplitl [T153]
  · iexact T153
  isplitl [T154]
  · iexact T154
  isplitl [T155]
  · iexact T155
  isplitl [F_stgX]
  · iexact F_stgX
  isplitl [F_stgW]
  · iexact F_stgW
  isplitl [F_accWhole]
  · iexact F_accWhole
  isplitl [T156]
  · iexact T156
  isplitl [F_barRes]
  · iexact F_barRes
  isplitl []
  · iexact Hlev
  isplitl [H_owes]
  · iexact H_owes
  iintro %v ⟨F_stgX, F_stgW, P157, P158, P159, P160, P161, P162, P163, P164, P165, P166, P167, P168, P169, P170, P171, P172, P173, P174, P175, P176, P177, P178, P179, P180, P181, P182, P183, P184, P185, P186, P187, P188, F_accRight, P189, F_barGot, H_owes⟩
  try dsimp only
  ihave F_accSrc0_0 := (bigSepL_wrap (fun k : Fin 32 => accSrcAt m c 0 k) 0) $$ P157
  ihave F_accSrc_0 := (bigSepL_wrap (fun k : Fin 32 => accSrcAt m c 0 k) 1) $$ P158
  ihave F_accSrc_0 := (bigSepL_snoc (fun k : Fin 32 => accSrcAt m c 0 k) [1] 2 [1, 2] rfl) $$ [F_accSrc_0 P159]
  · isplitl [F_accSrc_0] <;> iassumption
  ihave F_accSrc_0 := (bigSepL_snoc (fun k : Fin 32 => accSrcAt m c 0 k) [1, 2] 3 [1, 2, 3] rfl) $$ [F_accSrc_0 P160]
  · isplitl [F_accSrc_0] <;> iassumption
  ihave F_accSrc_0 := (bigSepL_snoc (fun k : Fin 32 => accSrcAt m c 0 k) [1, 2, 3] 4 [1, 2, 3, 4] rfl) $$ [F_accSrc_0 P161]
  · isplitl [F_accSrc_0] <;> iassumption
  ihave F_accSrc_0 := (bigSepL_snoc (fun k : Fin 32 => accSrcAt m c 0 k) [1, 2, 3, 4] 5 [1, 2, 3, 4, 5] rfl) $$ [F_accSrc_0 P162]
  · isplitl [F_accSrc_0] <;> iassumption
  ihave F_accSrc_0 := (bigSepL_snoc (fun k : Fin 32 => accSrcAt m c 0 k) [1, 2, 3, 4, 5] 6 [1, 2, 3, 4, 5, 6] rfl) $$ [F_accSrc_0 P163]
  · isplitl [F_accSrc_0] <;> iassumption
  ihave F_accSrc_0 := (bigSepL_snoc (fun k : Fin 32 => accSrcAt m c 0 k) [1, 2, 3, 4, 5, 6] 7 [1, 2, 3, 4, 5, 6, 7] rfl) $$ [F_accSrc_0 P164]
  · isplitl [F_accSrc_0] <;> iassumption
  ihave F_accSrc_0 := (bigSepL_snoc (fun k : Fin 32 => accSrcAt m c 0 k) [1, 2, 3, 4, 5, 6, 7] 8 [1, 2, 3, 4, 5, 6, 7, 8] rfl) $$ [F_accSrc_0 P165]
  · isplitl [F_accSrc_0] <;> iassumption
  ihave F_accSrc_0 := (bigSepL_snoc (fun k : Fin 32 => accSrcAt m c 0 k) [1, 2, 3, 4, 5, 6, 7, 8] 9 [1, 2, 3, 4, 5, 6, 7, 8, 9] rfl) $$ [F_accSrc_0 P166]
  · isplitl [F_accSrc_0] <;> iassumption
  ihave F_accSrc_0 := (bigSepL_snoc (fun k : Fin 32 => accSrcAt m c 0 k) [1, 2, 3, 4, 5, 6, 7, 8, 9] 10 [1, 2, 3, 4, 5, 6, 7, 8, 9, 10] rfl) $$ [F_accSrc_0 P167]
  · isplitl [F_accSrc_0] <;> iassumption
  ihave F_accSrc_0 := (bigSepL_snoc (fun k : Fin 32 => accSrcAt m c 0 k) [1, 2, 3, 4, 5, 6, 7, 8, 9, 10] 11 [1, 2, 3, 4, 5, 6, 7, 8, 9, 10, 11] rfl) $$ [F_accSrc_0 P168]
  · isplitl [F_accSrc_0] <;> iassumption
  ihave F_accSrc_0 := (bigSepL_snoc (fun k : Fin 32 => accSrcAt m c 0 k) [1, 2, 3, 4, 5, 6, 7, 8, 9, 10, 11] 12 [1, 2, 3, 4, 5, 6, 7, 8, 9, 10, 11, 12] rfl) $$ [F_accSrc_0 P169]
  · isplitl [F_accSrc_0] <;> iassumption
  ihave F_accSrc_0 := (bigSepL_snoc (fun k : Fin 32 => accSrcAt m c 0 k) [1, 2, 3, 4, 5, 6, 7, 8, 9, 10, 11, 12] 13 [1, 2, 3, 4, 5, 6, 7, 8, 9, 10, 11, 12, 13] rfl) $$ [F_accSrc_0 P170]
  · isplitl [F_accSrc_0] <;> iassumption
  ihave F_accSrc_0 := (bigSepL_snoc (fun k : Fin 32 => accSrcAt m c 0 k) [1, 2, 3, 4, 5, 6, 7, 8, 9, 10, 11, 12, 13] 14 [1, 2, 3, 4, 5, 6, 7, 8, 9, 10, 11, 12, 13, 14] rfl) $$ [F_accSrc_0 P171]
  · isplitl [F_accSrc_0] <;> iassumption
  ihave F_accSrc_0 := (bigSepL_snoc (fun k : Fin 32 => accSrcAt m c 0 k) [1, 2, 3, 4, 5, 6, 7, 8, 9, 10, 11, 12, 13, 14] 15 [1, 2, 3, 4, 5, 6, 7, 8, 9, 10, 11, 12, 13, 14, 15] rfl) $$ [F_accSrc_0 P172]
  · isplitl [F_accSrc_0] <;> iassumption
  ihave F_accSrc_0 := (bigSepL_snoc (fun k : Fin 32 => accSrcAt m c 0 k) [1, 2, 3, 4, 5, 6, 7, 8, 9, 10, 11, 12, 13, 14, 15] 16 [1, 2, 3, 4, 5, 6, 7, 8, 9, 10, 11, 12, 13, 14, 15, 16] rfl) $$ [F_accSrc_0 P173]
  · isplitl [F_accSrc_0] <;> iassumption
  ihave F_accSrc_0 := (bigSepL_snoc (fun k : Fin 32 => accSrcAt m c 0 k) [1, 2, 3, 4, 5, 6, 7, 8, 9, 10, 11, 12, 13, 14, 15, 16] 17 [1, 2, 3, 4, 5, 6, 7, 8, 9, 10, 11, 12, 13, 14, 15, 16, 17] rfl) $$ [F_accSrc_0 P174]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17] 18 [1, 2, 3, 4, 5, 6, 7, 8, 9, 10, 11, 12, 13, 14, 15, 16, 17, 18] rfl) $$ [F_accSrc_0 P175]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_accSrc_0 P176]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_accSrc_0 P177]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_accSrc_0 P178]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_accSrc_0 P179]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_accSrc_0 P180]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_accSrc_0 P181]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_accSrc_0 P182]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_accSrc_0 P183]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_accSrc_0 P184]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_accSrc_0 P185]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_accSrc_0 P186]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_accSrc_0 P187]
  · isplitl [F_accSrc_0] <;> iassumption
  ihave F_accSrc_0 := (bigSepL_snoc (fun k : Fin 32 => accSrcAt m c 0 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_accSrc_0 P188]
  · isplitl [F_accSrc_0] <;> iassumption
  ihave F_got_rsR_0 := (bigSepL_wrap (fun k : Fin 32 => gotRsR m c 0 k) 0) $$ P189
  -- the barrier's payloads, sorted by kind
  icases (barGot_split (F := F) c) $$ F_barGot with ⟨F_peerSlot_0, F_peerSlot_1, F_peerOut_0, F_peerOut_1⟩
  rw [ks_eq]
  -- k0_part7
  icases (bigSepL_pop (fun k : Fin 32 => copyRes m K rsS rsR c 0 k) 1 2 [3, 4, 5, 6, 7, 8, 9, 10, 11, 12, 13, 14, 15, 16, 17, 18, 19, 20, 21, 22, 23, 24, 25, 26, 27, 28, 29, 30, 31]) $$ F_copyRes_rsS_0 with ⟨T190, F_copyRes_rsS_0⟩
  icases (bigSepL_pop (fun k : Fin 32 => accSrcAt m c 0 k) 1 2 [3, 4, 5, 6, 7, 8, 9, 10, 11, 12, 13, 14, 15, 16, 17, 18, 19, 20, 21, 22, 23, 24, 25, 26, 27, 28, 29, 30, 31]) $$ F_accSrc_0 with ⟨T191, F_accSrc_0⟩
  icases (bigSepL_pop (fun k : Fin 32 => peerSlotAt c 0 k) 1 2 [3, 4, 5, 6, 7, 8, 9, 10, 11, 12, 13, 14, 15, 16, 17, 18, 19, 20, 21, 22, 23, 24, 25, 26, 27, 28, 29, 30, 31]) $$ F_peerSlot_0 with ⟨T192, F_peerSlot_0⟩
  icases (bigSepL_pop (fun k : Fin 32 => copyRes m K rsS rsR c 0 k) 2 3 [4, 5, 6, 7, 8, 9, 10, 11, 12, 13, 14, 15, 16, 17, 18, 19, 20, 21, 22, 23, 24, 25, 26, 27, 28, 29, 30, 31]) $$ F_copyRes_rsS_0 with ⟨T193, F_copyRes_rsS_0⟩
  icases (bigSepL_pop (fun k : Fin 32 => accSrcAt m c 0 k) 2 3 [4, 5, 6, 7, 8, 9, 10, 11, 12, 13, 14, 15, 16, 17, 18, 19, 20, 21, 22, 23, 24, 25, 26, 27, 28, 29, 30, 31]) $$ F_accSrc_0 with ⟨T194, F_accSrc_0⟩
  icases (bigSepL_pop (fun k : Fin 32 => peerSlotAt c 0 k) 2 3 [4, 5, 6, 7, 8, 9, 10, 11, 12, 13, 14, 15, 16, 17, 18, 19, 20, 21, 22, 23, 24, 25, 26, 27, 28, 29, 30, 31]) $$ F_peerSlot_0 with ⟨T195, F_peerSlot_0⟩
  rw [owed_step_31 c, owed_step_32 c]
  rw [wp_bind]
  iapply (part7_spec' m K c _ _ (owedAfter c 33) (insert (SemLoc.reg barS, ()) (W)))
  isplitl [T190]
  · iexact T190
  isplitl [T191]
  · iexact T191
  isplitl [T192]
  · iexact T192
  isplitl [T193]
  · iexact T193
  isplitl [T194]
  · iexact T194
  isplitl [T195]
  · iexact T195
  isplitl [H_owes]
  · iexact H_owes
  iintro %r ⟨P196, P197, H_owes⟩
  obtain ⟨v171, c1_i32_173⟩ := r
  try dsimp only
  ihave F_recvRes_rsS_0 := (bigSepL_wrap (fun k : Fin 32 => recvRes m K rsS c 0 k) 1) $$ P196
  ihave F_recvRes_rsS_0 := (bigSepL_snoc (fun k : Fin 32 => recvRes m K rsS c 0 k) [1] 2 [1, 2] rfl) $$ [F_recvRes_rsS_0 P197]
  · isplitl [F_recvRes_rsS_0] <;> iassumption
  -- k0_part8
  icases (bigSepL_pop (fun k : Fin 32 => copyRes m K rsS rsR c 0 k) 3 4 [5, 6, 7, 8, 9, 10, 11, 12, 13, 14, 15, 16, 17, 18, 19, 20, 21, 22, 23, 24, 25, 26, 27, 28, 29, 30, 31]) $$ F_copyRes_rsS_0 with ⟨T198, F_copyRes_rsS_0⟩
  icases (bigSepL_pop (fun k : Fin 32 => accSrcAt m c 0 k) 3 4 [5, 6, 7, 8, 9, 10, 11, 12, 13, 14, 15, 16, 17, 18, 19, 20, 21, 22, 23, 24, 25, 26, 27, 28, 29, 30, 31]) $$ F_accSrc_0 with ⟨T199, F_accSrc_0⟩
  icases (bigSepL_pop (fun k : Fin 32 => peerSlotAt c 0 k) 3 4 [5, 6, 7, 8, 9, 10, 11, 12, 13, 14, 15, 16, 17, 18, 19, 20, 21, 22, 23, 24, 25, 26, 27, 28, 29, 30, 31]) $$ F_peerSlot_0 with ⟨T200, F_peerSlot_0⟩
  icases (bigSepL_pop (fun k : Fin 32 => copyRes m K rsS rsR c 0 k) 4 5 [6, 7, 8, 9, 10, 11, 12, 13, 14, 15, 16, 17, 18, 19, 20, 21, 22, 23, 24, 25, 26, 27, 28, 29, 30, 31]) $$ F_copyRes_rsS_0 with ⟨T201, F_copyRes_rsS_0⟩
  icases (bigSepL_pop (fun k : Fin 32 => accSrcAt m c 0 k) 4 5 [6, 7, 8, 9, 10, 11, 12, 13, 14, 15, 16, 17, 18, 19, 20, 21, 22, 23, 24, 25, 26, 27, 28, 29, 30, 31]) $$ F_accSrc_0 with ⟨T202, F_accSrc_0⟩
  icases (bigSepL_pop (fun k : Fin 32 => peerSlotAt c 0 k) 4 5 [6, 7, 8, 9, 10, 11, 12, 13, 14, 15, 16, 17, 18, 19, 20, 21, 22, 23, 24, 25, 26, 27, 28, 29, 30, 31]) $$ F_peerSlot_0 with ⟨T203, F_peerSlot_0⟩
  rw [owed_step_33 c, owed_step_34 c]
  rw [wp_bind]
  iapply (part8_spec' m K c _ _ _ (owedAfter c 35) ((insert (SemLoc.reg barS, ()) (W))))
  isplitl [T198]
  · iexact T198
  isplitl [T199]
  · iexact T199
  isplitl [T200]
  · iexact T200
  isplitl [T201]
  · iexact T201
  isplitl [T202]
  · iexact T202
  isplitl [T203]
  · iexact T203
  isplitl [H_owes]
  · iexact H_owes
  iintro %r ⟨P204, P205, H_owes⟩
  try dsimp only
  ihave F_recvRes_rsS_0 := (bigSepL_snoc (fun k : Fin 32 => recvRes m K rsS c 0 k) [1, 2] 3 [1, 2, 3] rfl) $$ [F_recvRes_rsS_0 P204]
  · isplitl [F_recvRes_rsS_0] <;> iassumption
  ihave F_recvRes_rsS_0 := (bigSepL_snoc (fun k : Fin 32 => recvRes m K rsS c 0 k) [1, 2, 3] 4 [1, 2, 3, 4] rfl) $$ [F_recvRes_rsS_0 P205]
  · isplitl [F_recvRes_rsS_0] <;> iassumption
  -- k0_part9
  icases (bigSepL_pop (fun k : Fin 32 => copyRes m K rsS rsR c 0 k) 5 6 [7, 8, 9, 10, 11, 12, 13, 14, 15, 16, 17, 18, 19, 20, 21, 22, 23, 24, 25, 26, 27, 28, 29, 30, 31]) $$ F_copyRes_rsS_0 with ⟨T206, F_copyRes_rsS_0⟩
  icases (bigSepL_pop (fun k : Fin 32 => accSrcAt m c 0 k) 5 6 [7, 8, 9, 10, 11, 12, 13, 14, 15, 16, 17, 18, 19, 20, 21, 22, 23, 24, 25, 26, 27, 28, 29, 30, 31]) $$ F_accSrc_0 with ⟨T207, F_accSrc_0⟩
  icases (bigSepL_pop (fun k : Fin 32 => peerSlotAt c 0 k) 5 6 [7, 8, 9, 10, 11, 12, 13, 14, 15, 16, 17, 18, 19, 20, 21, 22, 23, 24, 25, 26, 27, 28, 29, 30, 31]) $$ F_peerSlot_0 with ⟨T208, F_peerSlot_0⟩
  icases (bigSepL_pop (fun k : Fin 32 => copyRes m K rsS rsR c 0 k) 6 7 [8, 9, 10, 11, 12, 13, 14, 15, 16, 17, 18, 19, 20, 21, 22, 23, 24, 25, 26, 27, 28, 29, 30, 31]) $$ F_copyRes_rsS_0 with ⟨T209, F_copyRes_rsS_0⟩
  icases (bigSepL_pop (fun k : Fin 32 => accSrcAt m c 0 k) 6 7 [8, 9, 10, 11, 12, 13, 14, 15, 16, 17, 18, 19, 20, 21, 22, 23, 24, 25, 26, 27, 28, 29, 30, 31]) $$ F_accSrc_0 with ⟨T210, F_accSrc_0⟩
  icases (bigSepL_pop (fun k : Fin 32 => peerSlotAt c 0 k) 6 7 [8, 9, 10, 11, 12, 13, 14, 15, 16, 17, 18, 19, 20, 21, 22, 23, 24, 25, 26, 27, 28, 29, 30, 31]) $$ F_peerSlot_0 with ⟨T211, F_peerSlot_0⟩
  rw [owed_step_35 c, owed_step_36 c]
  rw [wp_bind]
  iapply (part9_spec' m K c _ (owedAfter c 37) (((insert (SemLoc.reg barS, ()) (W)))))
  isplitl [T206]
  · iexact T206
  isplitl [T207]
  · iexact T207
  isplitl [T208]
  · iexact T208
  isplitl [T209]
  · iexact T209
  isplitl [T210]
  · iexact T210
  isplitl [T211]
  · iexact T211
  isplitl [H_owes]
  · iexact H_owes
  iintro %r ⟨P212, P213, H_owes⟩
  try dsimp only
  ihave F_recvRes_rsS_0 := (bigSepL_snoc (fun k : Fin 32 => recvRes m K rsS c 0 k) [1, 2, 3, 4] 5 [1, 2, 3, 4, 5] rfl) $$ [F_recvRes_rsS_0 P212]
  · isplitl [F_recvRes_rsS_0] <;> iassumption
  ihave F_recvRes_rsS_0 := (bigSepL_snoc (fun k : Fin 32 => recvRes m K rsS c 0 k) [1, 2, 3, 4, 5] 6 [1, 2, 3, 4, 5, 6] rfl) $$ [F_recvRes_rsS_0 P213]
  · isplitl [F_recvRes_rsS_0] <;> iassumption
  -- k0_part10
  icases (bigSepL_pop (fun k : Fin 32 => copyRes m K rsS rsR c 0 k) 7 8 [9, 10, 11, 12, 13, 14, 15, 16, 17, 18, 19, 20, 21, 22, 23, 24, 25, 26, 27, 28, 29, 30, 31]) $$ F_copyRes_rsS_0 with ⟨T214, F_copyRes_rsS_0⟩
  icases (bigSepL_pop (fun k : Fin 32 => accSrcAt m c 0 k) 7 8 [9, 10, 11, 12, 13, 14, 15, 16, 17, 18, 19, 20, 21, 22, 23, 24, 25, 26, 27, 28, 29, 30, 31]) $$ F_accSrc_0 with ⟨T215, F_accSrc_0⟩
  icases (bigSepL_pop (fun k : Fin 32 => peerSlotAt c 0 k) 7 8 [9, 10, 11, 12, 13, 14, 15, 16, 17, 18, 19, 20, 21, 22, 23, 24, 25, 26, 27, 28, 29, 30, 31]) $$ F_peerSlot_0 with ⟨T216, F_peerSlot_0⟩
  icases (bigSepL_pop (fun k : Fin 32 => copyRes m K rsS rsR c 0 k) 8 9 [10, 11, 12, 13, 14, 15, 16, 17, 18, 19, 20, 21, 22, 23, 24, 25, 26, 27, 28, 29, 30, 31]) $$ F_copyRes_rsS_0 with ⟨T217, F_copyRes_rsS_0⟩
  icases (bigSepL_pop (fun k : Fin 32 => accSrcAt m c 0 k) 8 9 [10, 11, 12, 13, 14, 15, 16, 17, 18, 19, 20, 21, 22, 23, 24, 25, 26, 27, 28, 29, 30, 31]) $$ F_accSrc_0 with ⟨T218, F_accSrc_0⟩
  icases (bigSepL_pop (fun k : Fin 32 => peerSlotAt c 0 k) 8 9 [10, 11, 12, 13, 14, 15, 16, 17, 18, 19, 20, 21, 22, 23, 24, 25, 26, 27, 28, 29, 30, 31]) $$ F_peerSlot_0 with ⟨T219, F_peerSlot_0⟩
  icases (bigSepL_pop (fun k : Fin 32 => copyRes m K rsS rsR c 0 k) 9 10 [11, 12, 13, 14, 15, 16, 17, 18, 19, 20, 21, 22, 23, 24, 25, 26, 27, 28, 29, 30, 31]) $$ F_copyRes_rsS_0 with ⟨T220, F_copyRes_rsS_0⟩
  icases (bigSepL_pop (fun k : Fin 32 => accSrcAt m c 0 k) 9 10 [11, 12, 13, 14, 15, 16, 17, 18, 19, 20, 21, 22, 23, 24, 25, 26, 27, 28, 29, 30, 31]) $$ F_accSrc_0 with ⟨T221, F_accSrc_0⟩
  icases (bigSepL_pop (fun k : Fin 32 => peerSlotAt c 0 k) 9 10 [11, 12, 13, 14, 15, 16, 17, 18, 19, 20, 21, 22, 23, 24, 25, 26, 27, 28, 29, 30, 31]) $$ F_peerSlot_0 with ⟨T222, F_peerSlot_0⟩
  rw [owed_step_37 c, owed_step_38 c, owed_step_39 c]
  rw [wp_bind]
  iapply (part10_spec' m K c _ (owedAfter c 40) ((((insert (SemLoc.reg barS, ()) (W))))))
  isplitl [T214]
  · iexact T214
  isplitl [T215]
  · iexact T215
  isplitl [T216]
  · iexact T216
  isplitl [T217]
  · iexact T217
  isplitl [T218]
  · iexact T218
  isplitl [T219]
  · iexact T219
  isplitl [T220]
  · iexact T220
  isplitl [T221]
  · iexact T221
  isplitl [T222]
  · iexact T222
  isplitl [H_owes]
  · iexact H_owes
  iintro %v255 ⟨P223, P224, P225, H_owes⟩
  try dsimp only
  ihave F_recvRes_rsS_0 := (bigSepL_snoc (fun k : Fin 32 => recvRes m K rsS c 0 k) [1, 2, 3, 4, 5, 6] 7 [1, 2, 3, 4, 5, 6, 7] rfl) $$ [F_recvRes_rsS_0 P223]
  · isplitl [F_recvRes_rsS_0] <;> iassumption
  ihave F_recvRes_rsS_0 := (bigSepL_snoc (fun k : Fin 32 => recvRes m K rsS c 0 k) [1, 2, 3, 4, 5, 6, 7] 8 [1, 2, 3, 4, 5, 6, 7, 8] rfl) $$ [F_recvRes_rsS_0 P224]
  · isplitl [F_recvRes_rsS_0] <;> iassumption
  ihave F_recvRes_rsS_0 := (bigSepL_snoc (fun k : Fin 32 => recvRes m K rsS c 0 k) [1, 2, 3, 4, 5, 6, 7, 8] 9 [1, 2, 3, 4, 5, 6, 7, 8, 9] rfl) $$ [F_recvRes_rsS_0 P225]
  · isplitl [F_recvRes_rsS_0] <;> iassumption
  -- k0_part11
  icases (bigSepL_pop (fun k : Fin 32 => copyRes m K rsS rsR c 0 k) 10 11 [12, 13, 14, 15, 16, 17, 18, 19, 20, 21, 22, 23, 24, 25, 26, 27, 28, 29, 30, 31]) $$ F_copyRes_rsS_0 with ⟨T226, F_copyRes_rsS_0⟩
  icases (bigSepL_pop (fun k : Fin 32 => accSrcAt m c 0 k) 10 11 [12, 13, 14, 15, 16, 17, 18, 19, 20, 21, 22, 23, 24, 25, 26, 27, 28, 29, 30, 31]) $$ F_accSrc_0 with ⟨T227, F_accSrc_0⟩
  icases (bigSepL_pop (fun k : Fin 32 => peerSlotAt c 0 k) 10 11 [12, 13, 14, 15, 16, 17, 18, 19, 20, 21, 22, 23, 24, 25, 26, 27, 28, 29, 30, 31]) $$ F_peerSlot_0 with ⟨T228, F_peerSlot_0⟩
  icases (bigSepL_pop (fun k : Fin 32 => copyRes m K rsS rsR c 0 k) 11 12 [13, 14, 15, 16, 17, 18, 19, 20, 21, 22, 23, 24, 25, 26, 27, 28, 29, 30, 31]) $$ F_copyRes_rsS_0 with ⟨T229, F_copyRes_rsS_0⟩
  icases (bigSepL_pop (fun k : Fin 32 => accSrcAt m c 0 k) 11 12 [13, 14, 15, 16, 17, 18, 19, 20, 21, 22, 23, 24, 25, 26, 27, 28, 29, 30, 31]) $$ F_accSrc_0 with ⟨T230, F_accSrc_0⟩
  icases (bigSepL_pop (fun k : Fin 32 => peerSlotAt c 0 k) 11 12 [13, 14, 15, 16, 17, 18, 19, 20, 21, 22, 23, 24, 25, 26, 27, 28, 29, 30, 31]) $$ F_peerSlot_0 with ⟨T231, F_peerSlot_0⟩
  rw [owed_step_40 c, owed_step_41 c]
  rw [wp_bind]
  iapply (part11_spec' m K c _ _ (owedAfter c 42) (((((insert (SemLoc.reg barS, ()) (W)))))))
  isplitl [T226]
  · iexact T226
  isplitl [T227]
  · iexact T227
  isplitl [T228]
  · iexact T228
  isplitl [T229]
  · iexact T229
  isplitl [T230]
  · iexact T230
  isplitl [T231]
  · iexact T231
  isplitl [H_owes]
  · iexact H_owes
  iintro %v279 ⟨P232, P233, H_owes⟩
  try dsimp only
  ihave F_recvRes_rsS_0 := (bigSepL_snoc (fun k : Fin 32 => recvRes m K rsS c 0 k) [1, 2, 3, 4, 5, 6, 7, 8, 9] 10 [1, 2, 3, 4, 5, 6, 7, 8, 9, 10] rfl) $$ [F_recvRes_rsS_0 P232]
  · isplitl [F_recvRes_rsS_0] <;> iassumption
  ihave F_recvRes_rsS_0 := (bigSepL_snoc (fun k : Fin 32 => recvRes m K rsS c 0 k) [1, 2, 3, 4, 5, 6, 7, 8, 9, 10] 11 [1, 2, 3, 4, 5, 6, 7, 8, 9, 10, 11] rfl) $$ [F_recvRes_rsS_0 P233]
  · isplitl [F_recvRes_rsS_0] <;> iassumption
  -- k0_part12
  icases (bigSepL_pop (fun k : Fin 32 => copyRes m K rsS rsR c 0 k) 12 13 [14, 15, 16, 17, 18, 19, 20, 21, 22, 23, 24, 25, 26, 27, 28, 29, 30, 31]) $$ F_copyRes_rsS_0 with ⟨T234, F_copyRes_rsS_0⟩
  icases (bigSepL_pop (fun k : Fin 32 => accSrcAt m c 0 k) 12 13 [14, 15, 16, 17, 18, 19, 20, 21, 22, 23, 24, 25, 26, 27, 28, 29, 30, 31]) $$ F_accSrc_0 with ⟨T235, F_accSrc_0⟩
  icases (bigSepL_pop (fun k : Fin 32 => peerSlotAt c 0 k) 12 13 [14, 15, 16, 17, 18, 19, 20, 21, 22, 23, 24, 25, 26, 27, 28, 29, 30, 31]) $$ F_peerSlot_0 with ⟨T236, F_peerSlot_0⟩
  icases (bigSepL_pop (fun k : Fin 32 => copyRes m K rsS rsR c 0 k) 13 14 [15, 16, 17, 18, 19, 20, 21, 22, 23, 24, 25, 26, 27, 28, 29, 30, 31]) $$ F_copyRes_rsS_0 with ⟨T237, F_copyRes_rsS_0⟩
  icases (bigSepL_pop (fun k : Fin 32 => accSrcAt m c 0 k) 13 14 [15, 16, 17, 18, 19, 20, 21, 22, 23, 24, 25, 26, 27, 28, 29, 30, 31]) $$ F_accSrc_0 with ⟨T238, F_accSrc_0⟩
  icases (bigSepL_pop (fun k : Fin 32 => peerSlotAt c 0 k) 13 14 [15, 16, 17, 18, 19, 20, 21, 22, 23, 24, 25, 26, 27, 28, 29, 30, 31]) $$ F_peerSlot_0 with ⟨T239, F_peerSlot_0⟩
  rw [owed_step_42 c, owed_step_43 c]
  rw [wp_bind]
  iapply (part12_spec' m K c _ _ (owedAfter c 44) ((((((insert (SemLoc.reg barS, ()) (W))))))))
  isplitl [T234]
  · iexact T234
  isplitl [T235]
  · iexact T235
  isplitl [T236]
  · iexact T236
  isplitl [T237]
  · iexact T237
  isplitl [T238]
  · iexact T238
  isplitl [T239]
  · iexact T239
  isplitl [H_owes]
  · iexact H_owes
  iintro %r ⟨P240, P241, H_owes⟩
  try dsimp only
  ihave F_recvRes_rsS_0 := (bigSepL_snoc (fun k : Fin 32 => recvRes m K rsS c 0 k) [1, 2, 3, 4, 5, 6, 7, 8, 9, 10, 11] 12 [1, 2, 3, 4, 5, 6, 7, 8, 9, 10, 11, 12] rfl) $$ [F_recvRes_rsS_0 P240]
  · isplitl [F_recvRes_rsS_0] <;> iassumption
  ihave F_recvRes_rsS_0 := (bigSepL_snoc (fun k : Fin 32 => recvRes m K rsS c 0 k) [1, 2, 3, 4, 5, 6, 7, 8, 9, 10, 11, 12] 13 [1, 2, 3, 4, 5, 6, 7, 8, 9, 10, 11, 12, 13] rfl) $$ [F_recvRes_rsS_0 P241]
  · isplitl [F_recvRes_rsS_0] <;> iassumption
  -- k0_part13
  icases (bigSepL_pop (fun k : Fin 32 => copyRes m K rsS rsR c 0 k) 14 15 [16, 17, 18, 19, 20, 21, 22, 23, 24, 25, 26, 27, 28, 29, 30, 31]) $$ F_copyRes_rsS_0 with ⟨T242, F_copyRes_rsS_0⟩
  icases (bigSepL_pop (fun k : Fin 32 => accSrcAt m c 0 k) 14 15 [16, 17, 18, 19, 20, 21, 22, 23, 24, 25, 26, 27, 28, 29, 30, 31]) $$ F_accSrc_0 with ⟨T243, F_accSrc_0⟩
  icases (bigSepL_pop (fun k : Fin 32 => peerSlotAt c 0 k) 14 15 [16, 17, 18, 19, 20, 21, 22, 23, 24, 25, 26, 27, 28, 29, 30, 31]) $$ F_peerSlot_0 with ⟨T244, F_peerSlot_0⟩
  icases (bigSepL_pop (fun k : Fin 32 => copyRes m K rsS rsR c 0 k) 15 16 [17, 18, 19, 20, 21, 22, 23, 24, 25, 26, 27, 28, 29, 30, 31]) $$ F_copyRes_rsS_0 with ⟨T245, F_copyRes_rsS_0⟩
  icases (bigSepL_pop (fun k : Fin 32 => accSrcAt m c 0 k) 15 16 [17, 18, 19, 20, 21, 22, 23, 24, 25, 26, 27, 28, 29, 30, 31]) $$ F_accSrc_0 with ⟨T246, F_accSrc_0⟩
  icases (bigSepL_pop (fun k : Fin 32 => peerSlotAt c 0 k) 15 16 [17, 18, 19, 20, 21, 22, 23, 24, 25, 26, 27, 28, 29, 30, 31]) $$ F_peerSlot_0 with ⟨T247, F_peerSlot_0⟩
  rw [owed_step_44 c, owed_step_45 c]
  rw [wp_bind]
  iapply (part13_spec' m K c _ (owedAfter c 46) (((((((insert (SemLoc.reg barS, ()) (W)))))))))
  isplitl [T242]
  · iexact T242
  isplitl [T243]
  · iexact T243
  isplitl [T244]
  · iexact T244
  isplitl [T245]
  · iexact T245
  isplitl [T246]
  · iexact T246
  isplitl [T247]
  · iexact T247
  isplitl [H_owes]
  · iexact H_owes
  iintro %r ⟨P248, P249, H_owes⟩
  try dsimp only
  ihave F_recvRes_rsS_0 := (bigSepL_snoc (fun k : Fin 32 => recvRes m K rsS c 0 k) [1, 2, 3, 4, 5, 6, 7, 8, 9, 10, 11, 12, 13] 14 [1, 2, 3, 4, 5, 6, 7, 8, 9, 10, 11, 12, 13, 14] rfl) $$ [F_recvRes_rsS_0 P248]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14] 15 [1, 2, 3, 4, 5, 6, 7, 8, 9, 10, 11, 12, 13, 14, 15] rfl) $$ [F_recvRes_rsS_0 P249]
  · isplitl [F_recvRes_rsS_0] <;> iassumption
  -- k0_part14
  icases (bigSepL_pop (fun k : Fin 32 => copyRes m K rsS rsR c 0 k) 16 17 [18, 19, 20, 21, 22, 23, 24, 25, 26, 27, 28, 29, 30, 31]) $$ F_copyRes_rsS_0 with ⟨T250, F_copyRes_rsS_0⟩
  icases (bigSepL_pop (fun k : Fin 32 => accSrcAt m c 0 k) 16 17 [18, 19, 20, 21, 22, 23, 24, 25, 26, 27, 28, 29, 30, 31]) $$ F_accSrc_0 with ⟨T251, F_accSrc_0⟩
  icases (bigSepL_pop (fun k : Fin 32 => peerSlotAt c 0 k) 16 17 [18, 19, 20, 21, 22, 23, 24, 25, 26, 27, 28, 29, 30, 31]) $$ F_peerSlot_0 with ⟨T252, F_peerSlot_0⟩
  icases (bigSepL_pop (fun k : Fin 32 => copyRes m K rsS rsR c 0 k) 17 18 [19, 20, 21, 22, 23, 24, 25, 26, 27, 28, 29, 30, 31]) $$ F_copyRes_rsS_0 with ⟨T253, F_copyRes_rsS_0⟩
  icases (bigSepL_pop (fun k : Fin 32 => accSrcAt m c 0 k) 17 18 [19, 20, 21, 22, 23, 24, 25, 26, 27, 28, 29, 30, 31]) $$ F_accSrc_0 with ⟨T254, F_accSrc_0⟩
  icases (bigSepL_pop (fun k : Fin 32 => peerSlotAt c 0 k) 17 18 [19, 20, 21, 22, 23, 24, 25, 26, 27, 28, 29, 30, 31]) $$ F_peerSlot_0 with ⟨T255, F_peerSlot_0⟩
  icases (bigSepL_pop (fun k : Fin 32 => copyRes m K rsS rsR c 0 k) 18 19 [20, 21, 22, 23, 24, 25, 26, 27, 28, 29, 30, 31]) $$ F_copyRes_rsS_0 with ⟨T256, F_copyRes_rsS_0⟩
  icases (bigSepL_pop (fun k : Fin 32 => accSrcAt m c 0 k) 18 19 [20, 21, 22, 23, 24, 25, 26, 27, 28, 29, 30, 31]) $$ F_accSrc_0 with ⟨T257, F_accSrc_0⟩
  icases (bigSepL_pop (fun k : Fin 32 => peerSlotAt c 0 k) 18 19 [20, 21, 22, 23, 24, 25, 26, 27, 28, 29, 30, 31]) $$ F_peerSlot_0 with ⟨T258, F_peerSlot_0⟩
  rw [owed_step_46 c, owed_step_47 c, owed_step_48 c]
  rw [wp_bind]
  iapply (part14_spec' m K c _ (owedAfter c 49) ((((((((insert (SemLoc.reg barS, ()) (W))))))))))
  isplitl [T250]
  · iexact T250
  isplitl [T251]
  · iexact T251
  isplitl [T252]
  · iexact T252
  isplitl [T253]
  · iexact T253
  isplitl [T254]
  · iexact T254
  isplitl [T255]
  · iexact T255
  isplitl [T256]
  · iexact T256
  isplitl [T257]
  · iexact T257
  isplitl [T258]
  · iexact T258
  isplitl [H_owes]
  · iexact H_owes
  iintro %c19_i32_388 ⟨P259, P260, P261, H_owes⟩
  try dsimp only
  ihave F_recvRes_rsS_0 := (bigSepL_snoc (fun k : Fin 32 => recvRes m K rsS c 0 k) [1, 2, 3, 4, 5, 6, 7, 8, 9, 10, 11, 12, 13, 14, 15] 16 [1, 2, 3, 4, 5, 6, 7, 8, 9, 10, 11, 12, 13, 14, 15, 16] rfl) $$ [F_recvRes_rsS_0 P259]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16] 17 [1, 2, 3, 4, 5, 6, 7, 8, 9, 10, 11, 12, 13, 14, 15, 16, 17] rfl) $$ [F_recvRes_rsS_0 P260]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16, 17] 18 [1, 2, 3, 4, 5, 6, 7, 8, 9, 10, 11, 12, 13, 14, 15, 16, 17, 18] rfl) $$ [F_recvRes_rsS_0 P261]
  · isplitl [F_recvRes_rsS_0] <;> iassumption
  -- k0_part15
  icases (bigSepL_pop (fun k : Fin 32 => copyRes m K rsS rsR c 0 k) 19 20 [21, 22, 23, 24, 25, 26, 27, 28, 29, 30, 31]) $$ F_copyRes_rsS_0 with ⟨T262, F_copyRes_rsS_0⟩
  icases (bigSepL_pop (fun k : Fin 32 => accSrcAt m c 0 k) 19 20 [21, 22, 23, 24, 25, 26, 27, 28, 29, 30, 31]) $$ F_accSrc_0 with ⟨T263, F_accSrc_0⟩
  icases (bigSepL_pop (fun k : Fin 32 => peerSlotAt c 0 k) 19 20 [21, 22, 23, 24, 25, 26, 27, 28, 29, 30, 31]) $$ F_peerSlot_0 with ⟨T264, F_peerSlot_0⟩
  icases (bigSepL_pop (fun k : Fin 32 => copyRes m K rsS rsR c 0 k) 20 21 [22, 23, 24, 25, 26, 27, 28, 29, 30, 31]) $$ F_copyRes_rsS_0 with ⟨T265, F_copyRes_rsS_0⟩
  icases (bigSepL_pop (fun k : Fin 32 => accSrcAt m c 0 k) 20 21 [22, 23, 24, 25, 26, 27, 28, 29, 30, 31]) $$ F_accSrc_0 with ⟨T266, F_accSrc_0⟩
  icases (bigSepL_pop (fun k : Fin 32 => peerSlotAt c 0 k) 20 21 [22, 23, 24, 25, 26, 27, 28, 29, 30, 31]) $$ F_peerSlot_0 with ⟨T267, F_peerSlot_0⟩
  rw [owed_step_49 c, owed_step_50 c]
  rw [wp_bind]
  iapply (part15_spec' m K c _ _ (owedAfter c 51) (((((((((insert (SemLoc.reg barS, ()) (W)))))))))))
  isplitl [T262]
  · iexact T262
  isplitl [T263]
  · iexact T263
  isplitl [T264]
  · iexact T264
  isplitl [T265]
  · iexact T265
  isplitl [T266]
  · iexact T266
  isplitl [T267]
  · iexact T267
  isplitl [H_owes]
  · iexact H_owes
  iintro %v387 ⟨P268, P269, H_owes⟩
  try dsimp only
  ihave F_recvRes_rsS_0 := (bigSepL_snoc (fun k : Fin 32 => recvRes m K rsS c 0 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_recvRes_rsS_0 P268]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_recvRes_rsS_0 P269]
  · isplitl [F_recvRes_rsS_0] <;> iassumption
  -- k0_part16
  icases (bigSepL_pop (fun k : Fin 32 => copyRes m K rsS rsR c 0 k) 21 22 [23, 24, 25, 26, 27, 28, 29, 30, 31]) $$ F_copyRes_rsS_0 with ⟨T270, F_copyRes_rsS_0⟩
  icases (bigSepL_pop (fun k : Fin 32 => accSrcAt m c 0 k) 21 22 [23, 24, 25, 26, 27, 28, 29, 30, 31]) $$ F_accSrc_0 with ⟨T271, F_accSrc_0⟩
  icases (bigSepL_pop (fun k : Fin 32 => peerSlotAt c 0 k) 21 22 [23, 24, 25, 26, 27, 28, 29, 30, 31]) $$ F_peerSlot_0 with ⟨T272, F_peerSlot_0⟩
  icases (bigSepL_pop (fun k : Fin 32 => copyRes m K rsS rsR c 0 k) 22 23 [24, 25, 26, 27, 28, 29, 30, 31]) $$ F_copyRes_rsS_0 with ⟨T273, F_copyRes_rsS_0⟩
  icases (bigSepL_pop (fun k : Fin 32 => accSrcAt m c 0 k) 22 23 [24, 25, 26, 27, 28, 29, 30, 31]) $$ F_accSrc_0 with ⟨T274, F_accSrc_0⟩
  icases (bigSepL_pop (fun k : Fin 32 => peerSlotAt c 0 k) 22 23 [24, 25, 26, 27, 28, 29, 30, 31]) $$ F_peerSlot_0 with ⟨T275, F_peerSlot_0⟩
  rw [owed_step_51 c, owed_step_52 c]
  rw [wp_bind]
  iapply (part16_spec' m K c _ _ (owedAfter c 53) ((((((((((insert (SemLoc.reg barS, ()) (W))))))))))))
  isplitl [T270]
  · iexact T270
  isplitl [T271]
  · iexact T271
  isplitl [T272]
  · iexact T272
  isplitl [T273]
  · iexact T273
  isplitl [T274]
  · iexact T274
  isplitl [T275]
  · iexact T275
  isplitl [H_owes]
  · iexact H_owes
  iintro %r ⟨P276, P277, H_owes⟩
  obtain ⟨v411, c1_i32_453⟩ := r
  try dsimp only
  ihave F_recvRes_rsS_0 := (bigSepL_snoc (fun k : Fin 32 => recvRes m K rsS c 0 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_recvRes_rsS_0 P276]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_recvRes_rsS_0 P277]
  · isplitl [F_recvRes_rsS_0] <;> iassumption
  -- k0_part17
  icases (bigSepL_pop (fun k : Fin 32 => copyRes m K rsS rsR c 0 k) 23 24 [25, 26, 27, 28, 29, 30, 31]) $$ F_copyRes_rsS_0 with ⟨T278, F_copyRes_rsS_0⟩
  icases (bigSepL_pop (fun k : Fin 32 => accSrcAt m c 0 k) 23 24 [25, 26, 27, 28, 29, 30, 31]) $$ F_accSrc_0 with ⟨T279, F_accSrc_0⟩
  icases (bigSepL_pop (fun k : Fin 32 => peerSlotAt c 0 k) 23 24 [25, 26, 27, 28, 29, 30, 31]) $$ F_peerSlot_0 with ⟨T280, F_peerSlot_0⟩
  icases (bigSepL_pop (fun k : Fin 32 => copyRes m K rsS rsR c 0 k) 24 25 [26, 27, 28, 29, 30, 31]) $$ F_copyRes_rsS_0 with ⟨T281, F_copyRes_rsS_0⟩
  icases (bigSepL_pop (fun k : Fin 32 => accSrcAt m c 0 k) 24 25 [26, 27, 28, 29, 30, 31]) $$ F_accSrc_0 with ⟨T282, F_accSrc_0⟩
  icases (bigSepL_pop (fun k : Fin 32 => peerSlotAt c 0 k) 24 25 [26, 27, 28, 29, 30, 31]) $$ F_peerSlot_0 with ⟨T283, F_peerSlot_0⟩
  rw [owed_step_53 c, owed_step_54 c]
  rw [wp_bind]
  iapply (part17_spec' m K c _ _ _ (owedAfter c 55) (((((((((((insert (SemLoc.reg barS, ()) (W)))))))))))))
  isplitl [T278]
  · iexact T278
  isplitl [T279]
  · iexact T279
  isplitl [T280]
  · iexact T280
  isplitl [T281]
  · iexact T281
  isplitl [T282]
  · iexact T282
  isplitl [T283]
  · iexact T283
  isplitl [H_owes]
  · iexact H_owes
  iintro %r ⟨P284, P285, H_owes⟩
  try dsimp only
  ihave F_recvRes_rsS_0 := (bigSepL_snoc (fun k : Fin 32 => recvRes m K rsS c 0 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_recvRes_rsS_0 P284]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_recvRes_rsS_0 P285]
  · isplitl [F_recvRes_rsS_0] <;> iassumption
  -- k0_part18
  icases (bigSepL_pop (fun k : Fin 32 => copyRes m K rsS rsR c 0 k) 25 26 [27, 28, 29, 30, 31]) $$ F_copyRes_rsS_0 with ⟨T286, F_copyRes_rsS_0⟩
  icases (bigSepL_pop (fun k : Fin 32 => accSrcAt m c 0 k) 25 26 [27, 28, 29, 30, 31]) $$ F_accSrc_0 with ⟨T287, F_accSrc_0⟩
  icases (bigSepL_pop (fun k : Fin 32 => peerSlotAt c 0 k) 25 26 [27, 28, 29, 30, 31]) $$ F_peerSlot_0 with ⟨T288, F_peerSlot_0⟩
  icases (bigSepL_pop (fun k : Fin 32 => copyRes m K rsS rsR c 0 k) 26 27 [28, 29, 30, 31]) $$ F_copyRes_rsS_0 with ⟨T289, F_copyRes_rsS_0⟩
  icases (bigSepL_pop (fun k : Fin 32 => accSrcAt m c 0 k) 26 27 [28, 29, 30, 31]) $$ F_accSrc_0 with ⟨T290, F_accSrc_0⟩
  icases (bigSepL_pop (fun k : Fin 32 => peerSlotAt c 0 k) 26 27 [28, 29, 30, 31]) $$ F_peerSlot_0 with ⟨T291, F_peerSlot_0⟩
  rw [owed_step_55 c, owed_step_56 c]
  rw [wp_bind]
  iapply (part18_spec' m K c _ (owedAfter c 57) ((((((((((((insert (SemLoc.reg barS, ()) (W))))))))))))))
  isplitl [T286]
  · iexact T286
  isplitl [T287]
  · iexact T287
  isplitl [T288]
  · iexact T288
  isplitl [T289]
  · iexact T289
  isplitl [T290]
  · iexact T290
  isplitl [T291]
  · iexact T291
  isplitl [H_owes]
  · iexact H_owes
  iintro %r ⟨P292, P293, H_owes⟩
  try dsimp only
  ihave F_recvRes_rsS_0 := (bigSepL_snoc (fun k : Fin 32 => recvRes m K rsS c 0 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_recvRes_rsS_0 P292]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_recvRes_rsS_0 P293]
  · isplitl [F_recvRes_rsS_0] <;> iassumption
  -- k0_part19
  icases (bigSepL_pop (fun k : Fin 32 => copyRes m K rsS rsR c 0 k) 27 28 [29, 30, 31]) $$ F_copyRes_rsS_0 with ⟨T294, F_copyRes_rsS_0⟩
  icases (bigSepL_pop (fun k : Fin 32 => accSrcAt m c 0 k) 27 28 [29, 30, 31]) $$ F_accSrc_0 with ⟨T295, F_accSrc_0⟩
  icases (bigSepL_pop (fun k : Fin 32 => peerSlotAt c 0 k) 27 28 [29, 30, 31]) $$ F_peerSlot_0 with ⟨T296, F_peerSlot_0⟩
  icases (bigSepL_pop (fun k : Fin 32 => copyRes m K rsS rsR c 0 k) 28 29 [30, 31]) $$ F_copyRes_rsS_0 with ⟨T297, F_copyRes_rsS_0⟩
  icases (bigSepL_pop (fun k : Fin 32 => accSrcAt m c 0 k) 28 29 [30, 31]) $$ F_accSrc_0 with ⟨T298, F_accSrc_0⟩
  icases (bigSepL_pop (fun k : Fin 32 => peerSlotAt c 0 k) 28 29 [30, 31]) $$ F_peerSlot_0 with ⟨T299, F_peerSlot_0⟩
  icases (bigSepL_pop (fun k : Fin 32 => copyRes m K rsS rsR c 0 k) 29 30 [31]) $$ F_copyRes_rsS_0 with ⟨T300, F_copyRes_rsS_0⟩
  icases (bigSepL_pop (fun k : Fin 32 => accSrcAt m c 0 k) 29 30 [31]) $$ F_accSrc_0 with ⟨T301, F_accSrc_0⟩
  icases (bigSepL_pop (fun k : Fin 32 => peerSlotAt c 0 k) 29 30 [31]) $$ F_peerSlot_0 with ⟨T302, F_peerSlot_0⟩
  rw [owed_step_57 c, owed_step_58 c, owed_step_59 c]
  rw [wp_bind]
  iapply (part19_spec' m K c _ (owedAfter c 60) (((((((((((((insert (SemLoc.reg barS, ()) (W)))))))))))))))
  isplitl [T294]
  · iexact T294
  isplitl [T295]
  · iexact T295
  isplitl [T296]
  · iexact T296
  isplitl [T297]
  · iexact T297
  isplitl [T298]
  · iexact T298
  isplitl [T299]
  · iexact T299
  isplitl [T300]
  · iexact T300
  isplitl [T301]
  · iexact T301
  isplitl [T302]
  · iexact T302
  isplitl [H_owes]
  · iexact H_owes
  iintro %v495 ⟨P303, P304, P305, H_owes⟩
  try dsimp only
  ihave F_recvRes_rsS_0 := (bigSepL_snoc (fun k : Fin 32 => recvRes m K rsS c 0 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_recvRes_rsS_0 P303]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_recvRes_rsS_0 P304]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_recvRes_rsS_0 P305]
  · isplitl [F_recvRes_rsS_0] <;> iassumption
  -- k0_part20
  icases (bigSepL_pop (fun k : Fin 32 => copyRes m K rsS rsR c 0 k) 30 31 []) $$ F_copyRes_rsS_0 with ⟨T306, F_copyRes_rsS_0⟩
  icases (bigSepL_pop (fun k : Fin 32 => accSrcAt m c 0 k) 30 31 []) $$ F_accSrc_0 with ⟨T307, F_accSrc_0⟩
  icases (bigSepL_pop (fun k : Fin 32 => peerSlotAt c 0 k) 30 31 []) $$ F_peerSlot_0 with ⟨T308, F_peerSlot_0⟩
  ihave T309 := (bigSepL_one (fun k : Fin 32 => copyRes m K rsS rsR c 0 k) 31) $$ F_copyRes_rsS_0
  ihave T310 := (bigSepL_one (fun k : Fin 32 => accSrcAt m c 0 k) 31) $$ F_accSrc_0
  ihave T311 := (bigSepL_one (fun k : Fin 32 => peerSlotAt c 0 k) 31) $$ F_peerSlot_0
  rw [owed_step_60 c, owed_step_61 c]
  rw [wp_bind]
  iapply (part20_spec' m K c _ _ f3 (owedAfter c 62) ((((((((((((((insert (SemLoc.reg barS, ()) (W))))))))))))))))
  isplitl [T306]
  · iexact T306
  isplitl [T307]
  · iexact T307
  isplitl [T308]
  · iexact T308
  isplitl [T309]
  · iexact T309
  isplitl [T310]
  · iexact T310
  isplitl [T311]
  · iexact T311
  isplitl [F_accRight]
  · iexact F_accRight
  isplitl [H_owes]
  · iexact H_owes
  iintro %r ⟨P312, P313, P314, P315, P316, P317, P318, P319, P320, P321, P322, P323, P324, P325, P326, P327, P328, P329, P330, P331, P332, P333, P334, P335, P336, P337, P338, P339, P340, P341, P342, P343, P344, P345, H_owes⟩
  try dsimp only
  ihave F_recvRes_rsS_0 := (bigSepL_snoc (fun k : Fin 32 => recvRes m K rsS c 0 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_recvRes_rsS_0 P312]
  · isplitl [F_recvRes_rsS_0] <;> iassumption
  ihave F_recvRes_rsS_0 := (bigSepL_snoc (fun k : Fin 32 => recvRes m K rsS c 0 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_recvRes_rsS_0 P313]
  · isplitl [F_recvRes_rsS_0] <;> iassumption
  ihave F_accSrc0_1 := (bigSepL_wrap (fun k : Fin 32 => accSrcAt m c 1 k) 0) $$ P314
  ihave F_accSrc_1 := (bigSepL_wrap (fun k : Fin 32 => accSrcAt m c 1 k) 1) $$ P315
  ihave F_accSrc_1 := (bigSepL_snoc (fun k : Fin 32 => accSrcAt m c 1 k) [1] 2 [1, 2] rfl) $$ [F_accSrc_1 P316]
  · isplitl [F_accSrc_1] <;> iassumption
  ihave F_accSrc_1 := (bigSepL_snoc (fun k : Fin 32 => accSrcAt m c 1 k) [1, 2] 3 [1, 2, 3] rfl) $$ [F_accSrc_1 P317]
  · isplitl [F_accSrc_1] <;> iassumption
  ihave F_accSrc_1 := (bigSepL_snoc (fun k : Fin 32 => accSrcAt m c 1 k) [1, 2, 3] 4 [1, 2, 3, 4] rfl) $$ [F_accSrc_1 P318]
  · isplitl [F_accSrc_1] <;> iassumption
  ihave F_accSrc_1 := (bigSepL_snoc (fun k : Fin 32 => accSrcAt m c 1 k) [1, 2, 3, 4] 5 [1, 2, 3, 4, 5] rfl) $$ [F_accSrc_1 P319]
  · isplitl [F_accSrc_1] <;> iassumption
  ihave F_accSrc_1 := (bigSepL_snoc (fun k : Fin 32 => accSrcAt m c 1 k) [1, 2, 3, 4, 5] 6 [1, 2, 3, 4, 5, 6] rfl) $$ [F_accSrc_1 P320]
  · isplitl [F_accSrc_1] <;> iassumption
  ihave F_accSrc_1 := (bigSepL_snoc (fun k : Fin 32 => accSrcAt m c 1 k) [1, 2, 3, 4, 5, 6] 7 [1, 2, 3, 4, 5, 6, 7] rfl) $$ [F_accSrc_1 P321]
  · isplitl [F_accSrc_1] <;> iassumption
  ihave F_accSrc_1 := (bigSepL_snoc (fun k : Fin 32 => accSrcAt m c 1 k) [1, 2, 3, 4, 5, 6, 7] 8 [1, 2, 3, 4, 5, 6, 7, 8] rfl) $$ [F_accSrc_1 P322]
  · isplitl [F_accSrc_1] <;> iassumption
  ihave F_accSrc_1 := (bigSepL_snoc (fun k : Fin 32 => accSrcAt m c 1 k) [1, 2, 3, 4, 5, 6, 7, 8] 9 [1, 2, 3, 4, 5, 6, 7, 8, 9] rfl) $$ [F_accSrc_1 P323]
  · isplitl [F_accSrc_1] <;> iassumption
  ihave F_accSrc_1 := (bigSepL_snoc (fun k : Fin 32 => accSrcAt m c 1 k) [1, 2, 3, 4, 5, 6, 7, 8, 9] 10 [1, 2, 3, 4, 5, 6, 7, 8, 9, 10] rfl) $$ [F_accSrc_1 P324]
  · isplitl [F_accSrc_1] <;> iassumption
  ihave F_accSrc_1 := (bigSepL_snoc (fun k : Fin 32 => accSrcAt m c 1 k) [1, 2, 3, 4, 5, 6, 7, 8, 9, 10] 11 [1, 2, 3, 4, 5, 6, 7, 8, 9, 10, 11] rfl) $$ [F_accSrc_1 P325]
  · isplitl [F_accSrc_1] <;> iassumption
  ihave F_accSrc_1 := (bigSepL_snoc (fun k : Fin 32 => accSrcAt m c 1 k) [1, 2, 3, 4, 5, 6, 7, 8, 9, 10, 11] 12 [1, 2, 3, 4, 5, 6, 7, 8, 9, 10, 11, 12] rfl) $$ [F_accSrc_1 P326]
  · isplitl [F_accSrc_1] <;> iassumption
  ihave F_accSrc_1 := (bigSepL_snoc (fun k : Fin 32 => accSrcAt m c 1 k) [1, 2, 3, 4, 5, 6, 7, 8, 9, 10, 11, 12] 13 [1, 2, 3, 4, 5, 6, 7, 8, 9, 10, 11, 12, 13] rfl) $$ [F_accSrc_1 P327]
  · isplitl [F_accSrc_1] <;> iassumption
  ihave F_accSrc_1 := (bigSepL_snoc (fun k : Fin 32 => accSrcAt m c 1 k) [1, 2, 3, 4, 5, 6, 7, 8, 9, 10, 11, 12, 13] 14 [1, 2, 3, 4, 5, 6, 7, 8, 9, 10, 11, 12, 13, 14] rfl) $$ [F_accSrc_1 P328]
  · isplitl [F_accSrc_1] <;> iassumption
  ihave F_accSrc_1 := (bigSepL_snoc (fun k : Fin 32 => accSrcAt m c 1 k) [1, 2, 3, 4, 5, 6, 7, 8, 9, 10, 11, 12, 13, 14] 15 [1, 2, 3, 4, 5, 6, 7, 8, 9, 10, 11, 12, 13, 14, 15] rfl) $$ [F_accSrc_1 P329]
  · isplitl [F_accSrc_1] <;> iassumption
  ihave F_accSrc_1 := (bigSepL_snoc (fun k : Fin 32 => accSrcAt m c 1 k) [1, 2, 3, 4, 5, 6, 7, 8, 9, 10, 11, 12, 13, 14, 15] 16 [1, 2, 3, 4, 5, 6, 7, 8, 9, 10, 11, 12, 13, 14, 15, 16] rfl) $$ [F_accSrc_1 P330]
  · isplitl [F_accSrc_1] <;> iassumption
  ihave F_accSrc_1 := (bigSepL_snoc (fun k : Fin 32 => accSrcAt m c 1 k) [1, 2, 3, 4, 5, 6, 7, 8, 9, 10, 11, 12, 13, 14, 15, 16] 17 [1, 2, 3, 4, 5, 6, 7, 8, 9, 10, 11, 12, 13, 14, 15, 16, 17] rfl) $$ [F_accSrc_1 P331]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17] 18 [1, 2, 3, 4, 5, 6, 7, 8, 9, 10, 11, 12, 13, 14, 15, 16, 17, 18] rfl) $$ [F_accSrc_1 P332]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_accSrc_1 P333]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_accSrc_1 P334]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_accSrc_1 P335]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_accSrc_1 P336]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_accSrc_1 P337]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_accSrc_1 P338]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_accSrc_1 P339]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_accSrc_1 P340]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_accSrc_1 P341]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_accSrc_1 P342]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_accSrc_1 P343]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_accSrc_1 P344]
  · isplitl [F_accSrc_1] <;> iassumption
  ihave F_accSrc_1 := (bigSepL_snoc (fun k : Fin 32 => accSrcAt m c 1 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_accSrc_1 P345]
  · isplitl [F_accSrc_1] <;> iassumption
  -- k0_part21
  ihave T346 := (bigSepL_one (fun k : Fin 32 => accSrcAt m c 1 k) 0) $$ F_accSrc0_1
  ihave T347 := (bigSepL_one (fun k : Fin 32 => slotAt c 1 fb (opp k)) 0) $$ F_slot0_1
  icases (bigSepL_pop (fun k : Fin 32 => copyRes m K rsS rsR c 1 k) 1 2 [3, 4, 5, 6, 7, 8, 9, 10, 11, 12, 13, 14, 15, 16, 17, 18, 19, 20, 21, 22, 23, 24, 25, 26, 27, 28, 29, 30, 31]) $$ F_copyRes_rsS_1 with ⟨T348, F_copyRes_rsS_1⟩
  icases (bigSepL_pop (fun k : Fin 32 => accSrcAt m c 1 k) 1 2 [3, 4, 5, 6, 7, 8, 9, 10, 11, 12, 13, 14, 15, 16, 17, 18, 19, 20, 21, 22, 23, 24, 25, 26, 27, 28, 29, 30, 31]) $$ F_accSrc_1 with ⟨T349, F_accSrc_1⟩
  icases (bigSepL_pop (fun k : Fin 32 => peerSlotAt c 1 k) 1 2 [3, 4, 5, 6, 7, 8, 9, 10, 11, 12, 13, 14, 15, 16, 17, 18, 19, 20, 21, 22, 23, 24, 25, 26, 27, 28, 29, 30, 31]) $$ F_peerSlot_1 with ⟨T350, F_peerSlot_1⟩
  rw [owed_step_62 c]
  rw [wp_bind]
  iapply (part21_spec' m K c _ fb (owedAfter c 63) (((((((((((((((insert (SemLoc.reg barS, ()) (W)))))))))))))))))
  isplitl [T346]
  · iexact T346
  isplitl [T347]
  · iexact T347
  isplitl [T348]
  · iexact T348
  isplitl [T349]
  · iexact T349
  isplitl [T350]
  · iexact T350
  isplitl [H_owes]
  · iexact H_owes
  iintro %r ⟨P351, P352, P353, H_owes⟩
  try dsimp only
  ihave F_accSrc0_1 := (bigSepL_wrap (fun k : Fin 32 => accSrcAt m c 1 k) 0) $$ P351
  ihave F_got_rsR_1 := (bigSepL_wrap (fun k : Fin 32 => gotRsR m c 1 k) 0) $$ P352
  ihave F_recvRes_rsS_1 := (bigSepL_wrap (fun k : Fin 32 => recvRes m K rsS c 1 k) 1) $$ P353
  -- k0_part22
  icases (bigSepL_pop (fun k : Fin 32 => copyRes m K rsS rsR c 1 k) 2 3 [4, 5, 6, 7, 8, 9, 10, 11, 12, 13, 14, 15, 16, 17, 18, 19, 20, 21, 22, 23, 24, 25, 26, 27, 28, 29, 30, 31]) $$ F_copyRes_rsS_1 with ⟨T354, F_copyRes_rsS_1⟩
  icases (bigSepL_pop (fun k : Fin 32 => accSrcAt m c 1 k) 2 3 [4, 5, 6, 7, 8, 9, 10, 11, 12, 13, 14, 15, 16, 17, 18, 19, 20, 21, 22, 23, 24, 25, 26, 27, 28, 29, 30, 31]) $$ F_accSrc_1 with ⟨T355, F_accSrc_1⟩
  icases (bigSepL_pop (fun k : Fin 32 => peerSlotAt c 1 k) 2 3 [4, 5, 6, 7, 8, 9, 10, 11, 12, 13, 14, 15, 16, 17, 18, 19, 20, 21, 22, 23, 24, 25, 26, 27, 28, 29, 30, 31]) $$ F_peerSlot_1 with ⟨T356, F_peerSlot_1⟩
  icases (bigSepL_pop (fun k : Fin 32 => copyRes m K rsS rsR c 1 k) 3 4 [5, 6, 7, 8, 9, 10, 11, 12, 13, 14, 15, 16, 17, 18, 19, 20, 21, 22, 23, 24, 25, 26, 27, 28, 29, 30, 31]) $$ F_copyRes_rsS_1 with ⟨T357, F_copyRes_rsS_1⟩
  icases (bigSepL_pop (fun k : Fin 32 => accSrcAt m c 1 k) 3 4 [5, 6, 7, 8, 9, 10, 11, 12, 13, 14, 15, 16, 17, 18, 19, 20, 21, 22, 23, 24, 25, 26, 27, 28, 29, 30, 31]) $$ F_accSrc_1 with ⟨T358, F_accSrc_1⟩
  icases (bigSepL_pop (fun k : Fin 32 => peerSlotAt c 1 k) 3 4 [5, 6, 7, 8, 9, 10, 11, 12, 13, 14, 15, 16, 17, 18, 19, 20, 21, 22, 23, 24, 25, 26, 27, 28, 29, 30, 31]) $$ F_peerSlot_1 with ⟨T359, F_peerSlot_1⟩
  rw [owed_step_63 c, owed_step_64 c]
  rw [wp_bind]
  iapply (part22_spec' m K c _ (owedAfter c 65) ((((((((((((((((insert (SemLoc.reg barS, ()) (W))))))))))))))))))
  isplitl [T354]
  · iexact T354
  isplitl [T355]
  · iexact T355
  isplitl [T356]
  · iexact T356
  isplitl [T357]
  · iexact T357
  isplitl [T358]
  · iexact T358
  isplitl [T359]
  · iexact T359
  isplitl [H_owes]
  · iexact H_owes
  iintro %r ⟨P360, P361, H_owes⟩
  try dsimp only
  ihave F_recvRes_rsS_1 := (bigSepL_snoc (fun k : Fin 32 => recvRes m K rsS c 1 k) [1] 2 [1, 2] rfl) $$ [F_recvRes_rsS_1 P360]
  · isplitl [F_recvRes_rsS_1] <;> iassumption
  ihave F_recvRes_rsS_1 := (bigSepL_snoc (fun k : Fin 32 => recvRes m K rsS c 1 k) [1, 2] 3 [1, 2, 3] rfl) $$ [F_recvRes_rsS_1 P361]
  · isplitl [F_recvRes_rsS_1] <;> iassumption
  -- k0_part23
  icases (bigSepL_pop (fun k : Fin 32 => copyRes m K rsS rsR c 1 k) 4 5 [6, 7, 8, 9, 10, 11, 12, 13, 14, 15, 16, 17, 18, 19, 20, 21, 22, 23, 24, 25, 26, 27, 28, 29, 30, 31]) $$ F_copyRes_rsS_1 with ⟨T362, F_copyRes_rsS_1⟩
  icases (bigSepL_pop (fun k : Fin 32 => accSrcAt m c 1 k) 4 5 [6, 7, 8, 9, 10, 11, 12, 13, 14, 15, 16, 17, 18, 19, 20, 21, 22, 23, 24, 25, 26, 27, 28, 29, 30, 31]) $$ F_accSrc_1 with ⟨T363, F_accSrc_1⟩
  icases (bigSepL_pop (fun k : Fin 32 => peerSlotAt c 1 k) 4 5 [6, 7, 8, 9, 10, 11, 12, 13, 14, 15, 16, 17, 18, 19, 20, 21, 22, 23, 24, 25, 26, 27, 28, 29, 30, 31]) $$ F_peerSlot_1 with ⟨T364, F_peerSlot_1⟩
  icases (bigSepL_pop (fun k : Fin 32 => copyRes m K rsS rsR c 1 k) 5 6 [7, 8, 9, 10, 11, 12, 13, 14, 15, 16, 17, 18, 19, 20, 21, 22, 23, 24, 25, 26, 27, 28, 29, 30, 31]) $$ F_copyRes_rsS_1 with ⟨T365, F_copyRes_rsS_1⟩
  icases (bigSepL_pop (fun k : Fin 32 => accSrcAt m c 1 k) 5 6 [7, 8, 9, 10, 11, 12, 13, 14, 15, 16, 17, 18, 19, 20, 21, 22, 23, 24, 25, 26, 27, 28, 29, 30, 31]) $$ F_accSrc_1 with ⟨T366, F_accSrc_1⟩
  icases (bigSepL_pop (fun k : Fin 32 => peerSlotAt c 1 k) 5 6 [7, 8, 9, 10, 11, 12, 13, 14, 15, 16, 17, 18, 19, 20, 21, 22, 23, 24, 25, 26, 27, 28, 29, 30, 31]) $$ F_peerSlot_1 with ⟨T367, F_peerSlot_1⟩
  icases (bigSepL_pop (fun k : Fin 32 => copyRes m K rsS rsR c 1 k) 6 7 [8, 9, 10, 11, 12, 13, 14, 15, 16, 17, 18, 19, 20, 21, 22, 23, 24, 25, 26, 27, 28, 29, 30, 31]) $$ F_copyRes_rsS_1 with ⟨T368, F_copyRes_rsS_1⟩
  icases (bigSepL_pop (fun k : Fin 32 => accSrcAt m c 1 k) 6 7 [8, 9, 10, 11, 12, 13, 14, 15, 16, 17, 18, 19, 20, 21, 22, 23, 24, 25, 26, 27, 28, 29, 30, 31]) $$ F_accSrc_1 with ⟨T369, F_accSrc_1⟩
  icases (bigSepL_pop (fun k : Fin 32 => peerSlotAt c 1 k) 6 7 [8, 9, 10, 11, 12, 13, 14, 15, 16, 17, 18, 19, 20, 21, 22, 23, 24, 25, 26, 27, 28, 29, 30, 31]) $$ F_peerSlot_1 with ⟨T370, F_peerSlot_1⟩
  rw [owed_step_65 c, owed_step_66 c, owed_step_67 c]
  rw [wp_bind]
  iapply (part23_spec' m K c _ (owedAfter c 68) (((((((((((((((((insert (SemLoc.reg barS, ()) (W)))))))))))))))))))
  isplitl [T362]
  · iexact T362
  isplitl [T363]
  · iexact T363
  isplitl [T364]
  · iexact T364
  isplitl [T365]
  · iexact T365
  isplitl [T366]
  · iexact T366
  isplitl [T367]
  · iexact T367
  isplitl [T368]
  · iexact T368
  isplitl [T369]
  · iexact T369
  isplitl [T370]
  · iexact T370
  isplitl [H_owes]
  · iexact H_owes
  iintro %r ⟨P371, P372, P373, H_owes⟩
  obtain ⟨v603, c32_i32_662⟩ := r
  try dsimp only
  ihave F_recvRes_rsS_1 := (bigSepL_snoc (fun k : Fin 32 => recvRes m K rsS c 1 k) [1, 2, 3] 4 [1, 2, 3, 4] rfl) $$ [F_recvRes_rsS_1 P371]
  · isplitl [F_recvRes_rsS_1] <;> iassumption
  ihave F_recvRes_rsS_1 := (bigSepL_snoc (fun k : Fin 32 => recvRes m K rsS c 1 k) [1, 2, 3, 4] 5 [1, 2, 3, 4, 5] rfl) $$ [F_recvRes_rsS_1 P372]
  · isplitl [F_recvRes_rsS_1] <;> iassumption
  ihave F_recvRes_rsS_1 := (bigSepL_snoc (fun k : Fin 32 => recvRes m K rsS c 1 k) [1, 2, 3, 4, 5] 6 [1, 2, 3, 4, 5, 6] rfl) $$ [F_recvRes_rsS_1 P373]
  · isplitl [F_recvRes_rsS_1] <;> iassumption
  -- k0_part24
  icases (bigSepL_pop (fun k : Fin 32 => copyRes m K rsS rsR c 1 k) 7 8 [9, 10, 11, 12, 13, 14, 15, 16, 17, 18, 19, 20, 21, 22, 23, 24, 25, 26, 27, 28, 29, 30, 31]) $$ F_copyRes_rsS_1 with ⟨T374, F_copyRes_rsS_1⟩
  icases (bigSepL_pop (fun k : Fin 32 => accSrcAt m c 1 k) 7 8 [9, 10, 11, 12, 13, 14, 15, 16, 17, 18, 19, 20, 21, 22, 23, 24, 25, 26, 27, 28, 29, 30, 31]) $$ F_accSrc_1 with ⟨T375, F_accSrc_1⟩
  icases (bigSepL_pop (fun k : Fin 32 => peerSlotAt c 1 k) 7 8 [9, 10, 11, 12, 13, 14, 15, 16, 17, 18, 19, 20, 21, 22, 23, 24, 25, 26, 27, 28, 29, 30, 31]) $$ F_peerSlot_1 with ⟨T376, F_peerSlot_1⟩
  icases (bigSepL_pop (fun k : Fin 32 => copyRes m K rsS rsR c 1 k) 8 9 [10, 11, 12, 13, 14, 15, 16, 17, 18, 19, 20, 21, 22, 23, 24, 25, 26, 27, 28, 29, 30, 31]) $$ F_copyRes_rsS_1 with ⟨T377, F_copyRes_rsS_1⟩
  icases (bigSepL_pop (fun k : Fin 32 => accSrcAt m c 1 k) 8 9 [10, 11, 12, 13, 14, 15, 16, 17, 18, 19, 20, 21, 22, 23, 24, 25, 26, 27, 28, 29, 30, 31]) $$ F_accSrc_1 with ⟨T378, F_accSrc_1⟩
  icases (bigSepL_pop (fun k : Fin 32 => peerSlotAt c 1 k) 8 9 [10, 11, 12, 13, 14, 15, 16, 17, 18, 19, 20, 21, 22, 23, 24, 25, 26, 27, 28, 29, 30, 31]) $$ F_peerSlot_1 with ⟨T379, F_peerSlot_1⟩
  rw [owed_step_68 c, owed_step_69 c]
  rw [wp_bind]
  iapply (part24_spec' m K c _ _ _ (owedAfter c 70) ((((((((((((((((((insert (SemLoc.reg barS, ()) (W))))))))))))))))))))
  isplitl [T374]
  · iexact T374
  isplitl [T375]
  · iexact T375
  isplitl [T376]
  · iexact T376
  isplitl [T377]
  · iexact T377
  isplitl [T378]
  · iexact T378
  isplitl [T379]
  · iexact T379
  isplitl [H_owes]
  · iexact H_owes
  iintro %v627 ⟨P380, P381, H_owes⟩
  try dsimp only
  ihave F_recvRes_rsS_1 := (bigSepL_snoc (fun k : Fin 32 => recvRes m K rsS c 1 k) [1, 2, 3, 4, 5, 6] 7 [1, 2, 3, 4, 5, 6, 7] rfl) $$ [F_recvRes_rsS_1 P380]
  · isplitl [F_recvRes_rsS_1] <;> iassumption
  ihave F_recvRes_rsS_1 := (bigSepL_snoc (fun k : Fin 32 => recvRes m K rsS c 1 k) [1, 2, 3, 4, 5, 6, 7] 8 [1, 2, 3, 4, 5, 6, 7, 8] rfl) $$ [F_recvRes_rsS_1 P381]
  · isplitl [F_recvRes_rsS_1] <;> iassumption
  -- k0_part25
  icases (bigSepL_pop (fun k : Fin 32 => copyRes m K rsS rsR c 1 k) 9 10 [11, 12, 13, 14, 15, 16, 17, 18, 19, 20, 21, 22, 23, 24, 25, 26, 27, 28, 29, 30, 31]) $$ F_copyRes_rsS_1 with ⟨T382, F_copyRes_rsS_1⟩
  icases (bigSepL_pop (fun k : Fin 32 => accSrcAt m c 1 k) 9 10 [11, 12, 13, 14, 15, 16, 17, 18, 19, 20, 21, 22, 23, 24, 25, 26, 27, 28, 29, 30, 31]) $$ F_accSrc_1 with ⟨T383, F_accSrc_1⟩
  icases (bigSepL_pop (fun k : Fin 32 => peerSlotAt c 1 k) 9 10 [11, 12, 13, 14, 15, 16, 17, 18, 19, 20, 21, 22, 23, 24, 25, 26, 27, 28, 29, 30, 31]) $$ F_peerSlot_1 with ⟨T384, F_peerSlot_1⟩
  icases (bigSepL_pop (fun k : Fin 32 => copyRes m K rsS rsR c 1 k) 10 11 [12, 13, 14, 15, 16, 17, 18, 19, 20, 21, 22, 23, 24, 25, 26, 27, 28, 29, 30, 31]) $$ F_copyRes_rsS_1 with ⟨T385, F_copyRes_rsS_1⟩
  icases (bigSepL_pop (fun k : Fin 32 => accSrcAt m c 1 k) 10 11 [12, 13, 14, 15, 16, 17, 18, 19, 20, 21, 22, 23, 24, 25, 26, 27, 28, 29, 30, 31]) $$ F_accSrc_1 with ⟨T386, F_accSrc_1⟩
  icases (bigSepL_pop (fun k : Fin 32 => peerSlotAt c 1 k) 10 11 [12, 13, 14, 15, 16, 17, 18, 19, 20, 21, 22, 23, 24, 25, 26, 27, 28, 29, 30, 31]) $$ F_peerSlot_1 with ⟨T387, F_peerSlot_1⟩
  rw [owed_step_70 c, owed_step_71 c]
  rw [wp_bind]
  iapply (part25_spec' m K c _ _ (owedAfter c 72) (((((((((((((((((((insert (SemLoc.reg barS, ()) (W)))))))))))))))))))))
  isplitl [T382]
  · iexact T382
  isplitl [T383]
  · iexact T383
  isplitl [T384]
  · iexact T384
  isplitl [T385]
  · iexact T385
  isplitl [T386]
  · iexact T386
  isplitl [T387]
  · iexact T387
  isplitl [H_owes]
  · iexact H_owes
  iintro %r ⟨P388, P389, H_owes⟩
  try dsimp only
  ihave F_recvRes_rsS_1 := (bigSepL_snoc (fun k : Fin 32 => recvRes m K rsS c 1 k) [1, 2, 3, 4, 5, 6, 7, 8] 9 [1, 2, 3, 4, 5, 6, 7, 8, 9] rfl) $$ [F_recvRes_rsS_1 P388]
  · isplitl [F_recvRes_rsS_1] <;> iassumption
  ihave F_recvRes_rsS_1 := (bigSepL_snoc (fun k : Fin 32 => recvRes m K rsS c 1 k) [1, 2, 3, 4, 5, 6, 7, 8, 9] 10 [1, 2, 3, 4, 5, 6, 7, 8, 9, 10] rfl) $$ [F_recvRes_rsS_1 P389]
  · isplitl [F_recvRes_rsS_1] <;> iassumption
  -- k0_part26
  icases (bigSepL_pop (fun k : Fin 32 => copyRes m K rsS rsR c 1 k) 11 12 [13, 14, 15, 16, 17, 18, 19, 20, 21, 22, 23, 24, 25, 26, 27, 28, 29, 30, 31]) $$ F_copyRes_rsS_1 with ⟨T390, F_copyRes_rsS_1⟩
  icases (bigSepL_pop (fun k : Fin 32 => accSrcAt m c 1 k) 11 12 [13, 14, 15, 16, 17, 18, 19, 20, 21, 22, 23, 24, 25, 26, 27, 28, 29, 30, 31]) $$ F_accSrc_1 with ⟨T391, F_accSrc_1⟩
  icases (bigSepL_pop (fun k : Fin 32 => peerSlotAt c 1 k) 11 12 [13, 14, 15, 16, 17, 18, 19, 20, 21, 22, 23, 24, 25, 26, 27, 28, 29, 30, 31]) $$ F_peerSlot_1 with ⟨T392, F_peerSlot_1⟩
  icases (bigSepL_pop (fun k : Fin 32 => copyRes m K rsS rsR c 1 k) 12 13 [14, 15, 16, 17, 18, 19, 20, 21, 22, 23, 24, 25, 26, 27, 28, 29, 30, 31]) $$ F_copyRes_rsS_1 with ⟨T393, F_copyRes_rsS_1⟩
  icases (bigSepL_pop (fun k : Fin 32 => accSrcAt m c 1 k) 12 13 [14, 15, 16, 17, 18, 19, 20, 21, 22, 23, 24, 25, 26, 27, 28, 29, 30, 31]) $$ F_accSrc_1 with ⟨T394, F_accSrc_1⟩
  icases (bigSepL_pop (fun k : Fin 32 => peerSlotAt c 1 k) 12 13 [14, 15, 16, 17, 18, 19, 20, 21, 22, 23, 24, 25, 26, 27, 28, 29, 30, 31]) $$ F_peerSlot_1 with ⟨T395, F_peerSlot_1⟩
  rw [owed_step_72 c, owed_step_73 c]
  rw [wp_bind]
  iapply (part26_spec' m K c _ (owedAfter c 74) ((((((((((((((((((((insert (SemLoc.reg barS, ()) (W))))))))))))))))))))))
  isplitl [T390]
  · iexact T390
  isplitl [T391]
  · iexact T391
  isplitl [T392]
  · iexact T392
  isplitl [T393]
  · iexact T393
  isplitl [T394]
  · iexact T394
  isplitl [T395]
  · iexact T395
  isplitl [H_owes]
  · iexact H_owes
  iintro %r ⟨P396, P397, H_owes⟩
  try dsimp only
  ihave F_recvRes_rsS_1 := (bigSepL_snoc (fun k : Fin 32 => recvRes m K rsS c 1 k) [1, 2, 3, 4, 5, 6, 7, 8, 9, 10] 11 [1, 2, 3, 4, 5, 6, 7, 8, 9, 10, 11] rfl) $$ [F_recvRes_rsS_1 P396]
  · isplitl [F_recvRes_rsS_1] <;> iassumption
  ihave F_recvRes_rsS_1 := (bigSepL_snoc (fun k : Fin 32 => recvRes m K rsS c 1 k) [1, 2, 3, 4, 5, 6, 7, 8, 9, 10, 11] 12 [1, 2, 3, 4, 5, 6, 7, 8, 9, 10, 11, 12] rfl) $$ [F_recvRes_rsS_1 P397]
  · isplitl [F_recvRes_rsS_1] <;> iassumption
  -- k0_part27
  icases (bigSepL_pop (fun k : Fin 32 => copyRes m K rsS rsR c 1 k) 13 14 [15, 16, 17, 18, 19, 20, 21, 22, 23, 24, 25, 26, 27, 28, 29, 30, 31]) $$ F_copyRes_rsS_1 with ⟨T398, F_copyRes_rsS_1⟩
  icases (bigSepL_pop (fun k : Fin 32 => accSrcAt m c 1 k) 13 14 [15, 16, 17, 18, 19, 20, 21, 22, 23, 24, 25, 26, 27, 28, 29, 30, 31]) $$ F_accSrc_1 with ⟨T399, F_accSrc_1⟩
  icases (bigSepL_pop (fun k : Fin 32 => peerSlotAt c 1 k) 13 14 [15, 16, 17, 18, 19, 20, 21, 22, 23, 24, 25, 26, 27, 28, 29, 30, 31]) $$ F_peerSlot_1 with ⟨T400, F_peerSlot_1⟩
  icases (bigSepL_pop (fun k : Fin 32 => copyRes m K rsS rsR c 1 k) 14 15 [16, 17, 18, 19, 20, 21, 22, 23, 24, 25, 26, 27, 28, 29, 30, 31]) $$ F_copyRes_rsS_1 with ⟨T401, F_copyRes_rsS_1⟩
  icases (bigSepL_pop (fun k : Fin 32 => accSrcAt m c 1 k) 14 15 [16, 17, 18, 19, 20, 21, 22, 23, 24, 25, 26, 27, 28, 29, 30, 31]) $$ F_accSrc_1 with ⟨T402, F_accSrc_1⟩
  icases (bigSepL_pop (fun k : Fin 32 => peerSlotAt c 1 k) 14 15 [16, 17, 18, 19, 20, 21, 22, 23, 24, 25, 26, 27, 28, 29, 30, 31]) $$ F_peerSlot_1 with ⟨T403, F_peerSlot_1⟩
  icases (bigSepL_pop (fun k : Fin 32 => copyRes m K rsS rsR c 1 k) 15 16 [17, 18, 19, 20, 21, 22, 23, 24, 25, 26, 27, 28, 29, 30, 31]) $$ F_copyRes_rsS_1 with ⟨T404, F_copyRes_rsS_1⟩
  icases (bigSepL_pop (fun k : Fin 32 => accSrcAt m c 1 k) 15 16 [17, 18, 19, 20, 21, 22, 23, 24, 25, 26, 27, 28, 29, 30, 31]) $$ F_accSrc_1 with ⟨T405, F_accSrc_1⟩
  icases (bigSepL_pop (fun k : Fin 32 => peerSlotAt c 1 k) 15 16 [17, 18, 19, 20, 21, 22, 23, 24, 25, 26, 27, 28, 29, 30, 31]) $$ F_peerSlot_1 with ⟨T406, F_peerSlot_1⟩
  rw [owed_step_74 c, owed_step_75 c, owed_step_76 c]
  rw [wp_bind]
  iapply (part27_spec' m K c _ (owedAfter c 77) (((((((((((((((((((((insert (SemLoc.reg barS, ()) (W)))))))))))))))))))))))
  isplitl [T398]
  · iexact T398
  isplitl [T399]
  · iexact T399
  isplitl [T400]
  · iexact T400
  isplitl [T401]
  · iexact T401
  isplitl [T402]
  · iexact T402
  isplitl [T403]
  · iexact T403
  isplitl [T404]
  · iexact T404
  isplitl [T405]
  · iexact T405
  isplitl [T406]
  · iexact T406
  isplitl [H_owes]
  · iexact H_owes
  iintro %v710 ⟨P407, P408, P409, H_owes⟩
  try dsimp only
  ihave F_recvRes_rsS_1 := (bigSepL_snoc (fun k : Fin 32 => recvRes m K rsS c 1 k) [1, 2, 3, 4, 5, 6, 7, 8, 9, 10, 11, 12] 13 [1, 2, 3, 4, 5, 6, 7, 8, 9, 10, 11, 12, 13] rfl) $$ [F_recvRes_rsS_1 P407]
  · isplitl [F_recvRes_rsS_1] <;> iassumption
  ihave F_recvRes_rsS_1 := (bigSepL_snoc (fun k : Fin 32 => recvRes m K rsS c 1 k) [1, 2, 3, 4, 5, 6, 7, 8, 9, 10, 11, 12, 13] 14 [1, 2, 3, 4, 5, 6, 7, 8, 9, 10, 11, 12, 13, 14] rfl) $$ [F_recvRes_rsS_1 P408]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14] 15 [1, 2, 3, 4, 5, 6, 7, 8, 9, 10, 11, 12, 13, 14, 15] rfl) $$ [F_recvRes_rsS_1 P409]
  · isplitl [F_recvRes_rsS_1] <;> iassumption
  -- k0_part28
  icases (bigSepL_pop (fun k : Fin 32 => copyRes m K rsS rsR c 1 k) 16 17 [18, 19, 20, 21, 22, 23, 24, 25, 26, 27, 28, 29, 30, 31]) $$ F_copyRes_rsS_1 with ⟨T410, F_copyRes_rsS_1⟩
  icases (bigSepL_pop (fun k : Fin 32 => accSrcAt m c 1 k) 16 17 [18, 19, 20, 21, 22, 23, 24, 25, 26, 27, 28, 29, 30, 31]) $$ F_accSrc_1 with ⟨T411, F_accSrc_1⟩
  icases (bigSepL_pop (fun k : Fin 32 => peerSlotAt c 1 k) 16 17 [18, 19, 20, 21, 22, 23, 24, 25, 26, 27, 28, 29, 30, 31]) $$ F_peerSlot_1 with ⟨T412, F_peerSlot_1⟩
  icases (bigSepL_pop (fun k : Fin 32 => copyRes m K rsS rsR c 1 k) 17 18 [19, 20, 21, 22, 23, 24, 25, 26, 27, 28, 29, 30, 31]) $$ F_copyRes_rsS_1 with ⟨T413, F_copyRes_rsS_1⟩
  icases (bigSepL_pop (fun k : Fin 32 => accSrcAt m c 1 k) 17 18 [19, 20, 21, 22, 23, 24, 25, 26, 27, 28, 29, 30, 31]) $$ F_accSrc_1 with ⟨T414, F_accSrc_1⟩
  icases (bigSepL_pop (fun k : Fin 32 => peerSlotAt c 1 k) 17 18 [19, 20, 21, 22, 23, 24, 25, 26, 27, 28, 29, 30, 31]) $$ F_peerSlot_1 with ⟨T415, F_peerSlot_1⟩
  rw [owed_step_77 c, owed_step_78 c]
  rw [wp_bind]
  iapply (part28_spec' m K c _ _ (owedAfter c 79) ((((((((((((((((((((((insert (SemLoc.reg barS, ()) (W))))))))))))))))))))))))
  isplitl [T410]
  · iexact T410
  isplitl [T411]
  · iexact T411
  isplitl [T412]
  · iexact T412
  isplitl [T413]
  · iexact T413
  isplitl [T414]
  · iexact T414
  isplitl [T415]
  · iexact T415
  isplitl [H_owes]
  · iexact H_owes
  iintro %v735 ⟨P416, P417, H_owes⟩
  try dsimp only
  ihave F_recvRes_rsS_1 := (bigSepL_snoc (fun k : Fin 32 => recvRes m K rsS c 1 k) [1, 2, 3, 4, 5, 6, 7, 8, 9, 10, 11, 12, 13, 14, 15] 16 [1, 2, 3, 4, 5, 6, 7, 8, 9, 10, 11, 12, 13, 14, 15, 16] rfl) $$ [F_recvRes_rsS_1 P416]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14, 15, 16] 17 [1, 2, 3, 4, 5, 6, 7, 8, 9, 10, 11, 12, 13, 14, 15, 16, 17] rfl) $$ [F_recvRes_rsS_1 P417]
  · isplitl [F_recvRes_rsS_1] <;> iassumption
  -- k0_part29
  icases (bigSepL_pop (fun k : Fin 32 => copyRes m K rsS rsR c 1 k) 18 19 [20, 21, 22, 23, 24, 25, 26, 27, 28, 29, 30, 31]) $$ F_copyRes_rsS_1 with ⟨T418, F_copyRes_rsS_1⟩
  icases (bigSepL_pop (fun k : Fin 32 => accSrcAt m c 1 k) 18 19 [20, 21, 22, 23, 24, 25, 26, 27, 28, 29, 30, 31]) $$ F_accSrc_1 with ⟨T419, F_accSrc_1⟩
  icases (bigSepL_pop (fun k : Fin 32 => peerSlotAt c 1 k) 18 19 [20, 21, 22, 23, 24, 25, 26, 27, 28, 29, 30, 31]) $$ F_peerSlot_1 with ⟨T420, F_peerSlot_1⟩
  icases (bigSepL_pop (fun k : Fin 32 => copyRes m K rsS rsR c 1 k) 19 20 [21, 22, 23, 24, 25, 26, 27, 28, 29, 30, 31]) $$ F_copyRes_rsS_1 with ⟨T421, F_copyRes_rsS_1⟩
  icases (bigSepL_pop (fun k : Fin 32 => accSrcAt m c 1 k) 19 20 [21, 22, 23, 24, 25, 26, 27, 28, 29, 30, 31]) $$ F_accSrc_1 with ⟨T422, F_accSrc_1⟩
  icases (bigSepL_pop (fun k : Fin 32 => peerSlotAt c 1 k) 19 20 [21, 22, 23, 24, 25, 26, 27, 28, 29, 30, 31]) $$ F_peerSlot_1 with ⟨T423, F_peerSlot_1⟩
  rw [owed_step_79 c, owed_step_80 c]
  rw [wp_bind]
  iapply (part29_spec' m K c _ _ (owedAfter c 81) (((((((((((((((((((((((insert (SemLoc.reg barS, ()) (W)))))))))))))))))))))))))
  isplitl [T418]
  · iexact T418
  isplitl [T419]
  · iexact T419
  isplitl [T420]
  · iexact T420
  isplitl [T421]
  · iexact T421
  isplitl [T422]
  · iexact T422
  isplitl [T423]
  · iexact T423
  isplitl [H_owes]
  · iexact H_owes
  iintro %v761 ⟨P424, P425, H_owes⟩
  try dsimp only
  ihave F_recvRes_rsS_1 := (bigSepL_snoc (fun k : Fin 32 => recvRes m K rsS c 1 k) [1, 2, 3, 4, 5, 6, 7, 8, 9, 10, 11, 12, 13, 14, 15, 16, 17] 18 [1, 2, 3, 4, 5, 6, 7, 8, 9, 10, 11, 12, 13, 14, 15, 16, 17, 18] rfl) $$ [F_recvRes_rsS_1 P424]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_recvRes_rsS_1 P425]
  · isplitl [F_recvRes_rsS_1] <;> iassumption
  -- k0_part30
  icases (bigSepL_pop (fun k : Fin 32 => copyRes m K rsS rsR c 1 k) 20 21 [22, 23, 24, 25, 26, 27, 28, 29, 30, 31]) $$ F_copyRes_rsS_1 with ⟨T426, F_copyRes_rsS_1⟩
  icases (bigSepL_pop (fun k : Fin 32 => accSrcAt m c 1 k) 20 21 [22, 23, 24, 25, 26, 27, 28, 29, 30, 31]) $$ F_accSrc_1 with ⟨T427, F_accSrc_1⟩
  icases (bigSepL_pop (fun k : Fin 32 => peerSlotAt c 1 k) 20 21 [22, 23, 24, 25, 26, 27, 28, 29, 30, 31]) $$ F_peerSlot_1 with ⟨T428, F_peerSlot_1⟩
  icases (bigSepL_pop (fun k : Fin 32 => copyRes m K rsS rsR c 1 k) 21 22 [23, 24, 25, 26, 27, 28, 29, 30, 31]) $$ F_copyRes_rsS_1 with ⟨T429, F_copyRes_rsS_1⟩
  icases (bigSepL_pop (fun k : Fin 32 => accSrcAt m c 1 k) 21 22 [23, 24, 25, 26, 27, 28, 29, 30, 31]) $$ F_accSrc_1 with ⟨T430, F_accSrc_1⟩
  icases (bigSepL_pop (fun k : Fin 32 => peerSlotAt c 1 k) 21 22 [23, 24, 25, 26, 27, 28, 29, 30, 31]) $$ F_peerSlot_1 with ⟨T431, F_peerSlot_1⟩
  rw [owed_step_81 c, owed_step_82 c]
  rw [wp_bind]
  iapply (part30_spec' m K c _ _ (owedAfter c 83) ((((((((((((((((((((((((insert (SemLoc.reg barS, ()) (W))))))))))))))))))))))))))
  isplitl [T426]
  · iexact T426
  isplitl [T427]
  · iexact T427
  isplitl [T428]
  · iexact T428
  isplitl [T429]
  · iexact T429
  isplitl [T430]
  · iexact T430
  isplitl [T431]
  · iexact T431
  isplitl [H_owes]
  · iexact H_owes
  iintro %r ⟨P432, P433, H_owes⟩
  try dsimp only
  ihave F_recvRes_rsS_1 := (bigSepL_snoc (fun k : Fin 32 => recvRes m K rsS c 1 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_recvRes_rsS_1 P432]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_recvRes_rsS_1 P433]
  · isplitl [F_recvRes_rsS_1] <;> iassumption
  -- k0_part31
  icases (bigSepL_pop (fun k : Fin 32 => copyRes m K rsS rsR c 1 k) 22 23 [24, 25, 26, 27, 28, 29, 30, 31]) $$ F_copyRes_rsS_1 with ⟨T434, F_copyRes_rsS_1⟩
  icases (bigSepL_pop (fun k : Fin 32 => accSrcAt m c 1 k) 22 23 [24, 25, 26, 27, 28, 29, 30, 31]) $$ F_accSrc_1 with ⟨T435, F_accSrc_1⟩
  icases (bigSepL_pop (fun k : Fin 32 => peerSlotAt c 1 k) 22 23 [24, 25, 26, 27, 28, 29, 30, 31]) $$ F_peerSlot_1 with ⟨T436, F_peerSlot_1⟩
  icases (bigSepL_pop (fun k : Fin 32 => copyRes m K rsS rsR c 1 k) 23 24 [25, 26, 27, 28, 29, 30, 31]) $$ F_copyRes_rsS_1 with ⟨T437, F_copyRes_rsS_1⟩
  icases (bigSepL_pop (fun k : Fin 32 => accSrcAt m c 1 k) 23 24 [25, 26, 27, 28, 29, 30, 31]) $$ F_accSrc_1 with ⟨T438, F_accSrc_1⟩
  icases (bigSepL_pop (fun k : Fin 32 => peerSlotAt c 1 k) 23 24 [25, 26, 27, 28, 29, 30, 31]) $$ F_peerSlot_1 with ⟨T439, F_peerSlot_1⟩
  rw [owed_step_83 c, owed_step_84 c]
  rw [wp_bind]
  iapply (part31_spec' m K c _ (owedAfter c 85) (((((((((((((((((((((((((insert (SemLoc.reg barS, ()) (W)))))))))))))))))))))))))))
  isplitl [T434]
  · iexact T434
  isplitl [T435]
  · iexact T435
  isplitl [T436]
  · iexact T436
  isplitl [T437]
  · iexact T437
  isplitl [T438]
  · iexact T438
  isplitl [T439]
  · iexact T439
  isplitl [H_owes]
  · iexact H_owes
  iintro %r ⟨P440, P441, H_owes⟩
  try dsimp only
  ihave F_recvRes_rsS_1 := (bigSepL_snoc (fun k : Fin 32 => recvRes m K rsS c 1 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_recvRes_rsS_1 P440]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_recvRes_rsS_1 P441]
  · isplitl [F_recvRes_rsS_1] <;> iassumption
  -- k0_part32
  icases (bigSepL_pop (fun k : Fin 32 => copyRes m K rsS rsR c 1 k) 24 25 [26, 27, 28, 29, 30, 31]) $$ F_copyRes_rsS_1 with ⟨T442, F_copyRes_rsS_1⟩
  icases (bigSepL_pop (fun k : Fin 32 => accSrcAt m c 1 k) 24 25 [26, 27, 28, 29, 30, 31]) $$ F_accSrc_1 with ⟨T443, F_accSrc_1⟩
  icases (bigSepL_pop (fun k : Fin 32 => peerSlotAt c 1 k) 24 25 [26, 27, 28, 29, 30, 31]) $$ F_peerSlot_1 with ⟨T444, F_peerSlot_1⟩
  icases (bigSepL_pop (fun k : Fin 32 => copyRes m K rsS rsR c 1 k) 25 26 [27, 28, 29, 30, 31]) $$ F_copyRes_rsS_1 with ⟨T445, F_copyRes_rsS_1⟩
  icases (bigSepL_pop (fun k : Fin 32 => accSrcAt m c 1 k) 25 26 [27, 28, 29, 30, 31]) $$ F_accSrc_1 with ⟨T446, F_accSrc_1⟩
  icases (bigSepL_pop (fun k : Fin 32 => peerSlotAt c 1 k) 25 26 [27, 28, 29, 30, 31]) $$ F_peerSlot_1 with ⟨T447, F_peerSlot_1⟩
  icases (bigSepL_pop (fun k : Fin 32 => copyRes m K rsS rsR c 1 k) 26 27 [28, 29, 30, 31]) $$ F_copyRes_rsS_1 with ⟨T448, F_copyRes_rsS_1⟩
  icases (bigSepL_pop (fun k : Fin 32 => accSrcAt m c 1 k) 26 27 [28, 29, 30, 31]) $$ F_accSrc_1 with ⟨T449, F_accSrc_1⟩
  icases (bigSepL_pop (fun k : Fin 32 => peerSlotAt c 1 k) 26 27 [28, 29, 30, 31]) $$ F_peerSlot_1 with ⟨T450, F_peerSlot_1⟩
  rw [owed_step_85 c, owed_step_86 c, owed_step_87 c]
  rw [wp_bind]
  iapply (part32_spec' m K c _ (owedAfter c 88) ((((((((((((((((((((((((((insert (SemLoc.reg barS, ()) (W))))))))))))))))))))))))))))
  isplitl [T442]
  · iexact T442
  isplitl [T443]
  · iexact T443
  isplitl [T444]
  · iexact T444
  isplitl [T445]
  · iexact T445
  isplitl [T446]
  · iexact T446
  isplitl [T447]
  · iexact T447
  isplitl [T448]
  · iexact T448
  isplitl [T449]
  · iexact T449
  isplitl [T450]
  · iexact T450
  isplitl [H_owes]
  · iexact H_owes
  iintro %r ⟨P451, P452, P453, H_owes⟩
  obtain ⟨v843, c32_i32_942⟩ := r
  try dsimp only
  ihave F_recvRes_rsS_1 := (bigSepL_snoc (fun k : Fin 32 => recvRes m K rsS c 1 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_recvRes_rsS_1 P451]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_recvRes_rsS_1 P452]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_recvRes_rsS_1 P453]
  · isplitl [F_recvRes_rsS_1] <;> iassumption
  -- k0_part33
  icases (bigSepL_pop (fun k : Fin 32 => copyRes m K rsS rsR c 1 k) 27 28 [29, 30, 31]) $$ F_copyRes_rsS_1 with ⟨T454, F_copyRes_rsS_1⟩
  icases (bigSepL_pop (fun k : Fin 32 => accSrcAt m c 1 k) 27 28 [29, 30, 31]) $$ F_accSrc_1 with ⟨T455, F_accSrc_1⟩
  icases (bigSepL_pop (fun k : Fin 32 => peerSlotAt c 1 k) 27 28 [29, 30, 31]) $$ F_peerSlot_1 with ⟨T456, F_peerSlot_1⟩
  icases (bigSepL_pop (fun k : Fin 32 => copyRes m K rsS rsR c 1 k) 28 29 [30, 31]) $$ F_copyRes_rsS_1 with ⟨T457, F_copyRes_rsS_1⟩
  icases (bigSepL_pop (fun k : Fin 32 => accSrcAt m c 1 k) 28 29 [30, 31]) $$ F_accSrc_1 with ⟨T458, F_accSrc_1⟩
  icases (bigSepL_pop (fun k : Fin 32 => peerSlotAt c 1 k) 28 29 [30, 31]) $$ F_peerSlot_1 with ⟨T459, F_peerSlot_1⟩
  rw [owed_step_88 c, owed_step_89 c]
  rw [wp_bind]
  iapply (part33_spec' m K c _ _ _ (owedAfter c 90) (((((((((((((((((((((((((((insert (SemLoc.reg barS, ()) (W)))))))))))))))))))))))))))))
  isplitl [T454]
  · iexact T454
  isplitl [T455]
  · iexact T455
  isplitl [T456]
  · iexact T456
  isplitl [T457]
  · iexact T457
  isplitl [T458]
  · iexact T458
  isplitl [T459]
  · iexact T459
  isplitl [H_owes]
  · iexact H_owes
  iintro %v867 ⟨P460, P461, H_owes⟩
  try dsimp only
  ihave F_recvRes_rsS_1 := (bigSepL_snoc (fun k : Fin 32 => recvRes m K rsS c 1 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_recvRes_rsS_1 P460]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_recvRes_rsS_1 P461]
  · isplitl [F_recvRes_rsS_1] <;> iassumption
  -- k0_part34
  icases (bigSepL_pop (fun k : Fin 32 => copyRes m K rsS rsR c 1 k) 29 30 [31]) $$ F_copyRes_rsS_1 with ⟨T462, F_copyRes_rsS_1⟩
  icases (bigSepL_pop (fun k : Fin 32 => accSrcAt m c 1 k) 29 30 [31]) $$ F_accSrc_1 with ⟨T463, F_accSrc_1⟩
  icases (bigSepL_pop (fun k : Fin 32 => peerSlotAt c 1 k) 29 30 [31]) $$ F_peerSlot_1 with ⟨T464, F_peerSlot_1⟩
  icases (bigSepL_pop (fun k : Fin 32 => copyRes m K rsS rsR c 1 k) 30 31 []) $$ F_copyRes_rsS_1 with ⟨T465, F_copyRes_rsS_1⟩
  icases (bigSepL_pop (fun k : Fin 32 => accSrcAt m c 1 k) 30 31 []) $$ F_accSrc_1 with ⟨T466, F_accSrc_1⟩
  icases (bigSepL_pop (fun k : Fin 32 => peerSlotAt c 1 k) 30 31 []) $$ F_peerSlot_1 with ⟨T467, F_peerSlot_1⟩
  rw [owed_step_90 c, owed_step_91 c]
  rw [wp_bind]
  iapply (part34_spec' m K c _ _ (owedAfter c 92) ((((((((((((((((((((((((((((insert (SemLoc.reg barS, ()) (W))))))))))))))))))))))))))))))
  isplitl [T462]
  · iexact T462
  isplitl [T463]
  · iexact T463
  isplitl [T464]
  · iexact T464
  isplitl [T465]
  · iexact T465
  isplitl [T466]
  · iexact T466
  isplitl [T467]
  · iexact T467
  isplitl [H_owes]
  · iexact H_owes
  iintro %r ⟨P468, P469, H_owes⟩
  try dsimp only
  ihave F_recvRes_rsS_1 := (bigSepL_snoc (fun k : Fin 32 => recvRes m K rsS c 1 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_recvRes_rsS_1 P468]
  · isplitl [F_recvRes_rsS_1] <;> iassumption
  ihave F_recvRes_rsS_1 := (bigSepL_snoc (fun k : Fin 32 => recvRes m K rsS c 1 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_recvRes_rsS_1 P469]
  · isplitl [F_recvRes_rsS_1] <;> iassumption
  -- k0_part35
  ihave T470 := (bigSepL_one (fun k : Fin 32 => copyRes m K rsS rsR c 1 k) 31) $$ F_copyRes_rsS_1
  ihave T471 := (bigSepL_one (fun k : Fin 32 => accSrcAt m c 1 k) 31) $$ F_accSrc_1
  ihave T472 := (bigSepL_one (fun k : Fin 32 => peerSlotAt c 1 k) 31) $$ F_peerSlot_1
  icases (bigSepL_pop (fun k : Fin 32 => recvRes m K rsR c 0 k) 1 2 [3, 4, 5, 6, 7, 8, 9, 10, 11, 12, 13, 14, 15, 16, 17, 18, 19, 20, 21, 22, 23, 24, 25, 26, 27, 28, 29, 30, 31]) $$ F_recvRes_rsR_0 with ⟨T473, F_recvRes_rsR_0⟩
  rw [owed_step_92 c]
  rw [wp_bind]
  iapply (part35_spec' m K c _ (owedAfter c 93) (mayWait_rsR0 (F := F) c 1) (((((((((((((((((((((((((((((insert (SemLoc.reg barS, ()) (W)))))))))))))))))))))))))))))))
  isplitl [T470]
  · iexact T470
  isplitl [T471]
  · iexact T471
  isplitl [T472]
  · iexact T472
  isplitl [T473]
  · iexact T473
  isplitl []
  · iexact Hlev
  isplitl [H_owes]
  · iexact H_owes
  iintro %r ⟨P474, P475, P476, H_owes⟩
  try dsimp only
  ihave F_recvRes_rsS_1 := (bigSepL_snoc (fun k : Fin 32 => recvRes m K rsS c 1 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_recvRes_rsS_1 P474]
  · isplitl [F_recvRes_rsS_1] <;> iassumption
  ihave F_got_rsR_0 := (bigSepL_snoc (fun k : Fin 32 => gotRsR m c 0 k) [0] 1 [0, 1] rfl) $$ [F_got_rsR_0 P475]
  · isplitl [F_got_rsR_0] <;> iassumption
  ihave F_closed_rsR_0 := (bigSepL_wrap (fun k : Fin 32 => closedAt m K c 0 k rsR) 1) $$ P476
  -- k0_part36
  icases (bigSepL_pop (fun k : Fin 32 => recvRes m K rsR c 0 k) 2 3 [4, 5, 6, 7, 8, 9, 10, 11, 12, 13, 14, 15, 16, 17, 18, 19, 20, 21, 22, 23, 24, 25, 26, 27, 28, 29, 30, 31]) $$ F_recvRes_rsR_0 with ⟨T477, F_recvRes_rsR_0⟩
  icases (bigSepL_pop (fun k : Fin 32 => recvRes m K rsR c 0 k) 3 4 [5, 6, 7, 8, 9, 10, 11, 12, 13, 14, 15, 16, 17, 18, 19, 20, 21, 22, 23, 24, 25, 26, 27, 28, 29, 30, 31]) $$ F_recvRes_rsR_0 with ⟨T478, F_recvRes_rsR_0⟩
  rw [wp_bind]
  iapply (part36_spec' m K c _ (insert (SemLoc.dma (semAt (arr rsR) 0 1), ()) ((((((((((((((((((((((((((((((insert (SemLoc.reg barS, ()) (W)))))))))))))))))))))))))))))))))
  isplitl [T477]
  · iexact T477
  isplitl [T478]
  · iexact T478
  isplitl []
  · iexact Hlev
  isplitl [H_owes]
  · iexact H_owes
  iintro %r ⟨P479, P480, P481, P482, H_owes⟩
  try dsimp only
  ihave F_got_rsR_0 := (bigSepL_snoc (fun k : Fin 32 => gotRsR m c 0 k) [0, 1] 2 [0, 1, 2] rfl) $$ [F_got_rsR_0 P479]
  · isplitl [F_got_rsR_0] <;> iassumption
  ihave F_closed_rsR_0 := (bigSepL_snoc (fun k : Fin 32 => closedAt m K c 0 k rsR) [1] 2 [1, 2] rfl) $$ [F_closed_rsR_0 P480]
  · isplitl [F_closed_rsR_0] <;> iassumption
  ihave F_got_rsR_0 := (bigSepL_snoc (fun k : Fin 32 => gotRsR m c 0 k) [0, 1, 2] 3 [0, 1, 2, 3] rfl) $$ [F_got_rsR_0 P481]
  · isplitl [F_got_rsR_0] <;> iassumption
  ihave F_closed_rsR_0 := (bigSepL_snoc (fun k : Fin 32 => closedAt m K c 0 k rsR) [1, 2] 3 [1, 2, 3] rfl) $$ [F_closed_rsR_0 P482]
  · isplitl [F_closed_rsR_0] <;> iassumption
  -- k0_part37
  icases (bigSepL_pop (fun k : Fin 32 => recvRes m K rsR c 0 k) 4 5 [6, 7, 8, 9, 10, 11, 12, 13, 14, 15, 16, 17, 18, 19, 20, 21, 22, 23, 24, 25, 26, 27, 28, 29, 30, 31]) $$ F_recvRes_rsR_0 with ⟨T483, F_recvRes_rsR_0⟩
  icases (bigSepL_pop (fun k : Fin 32 => recvRes m K rsR c 0 k) 5 6 [7, 8, 9, 10, 11, 12, 13, 14, 15, 16, 17, 18, 19, 20, 21, 22, 23, 24, 25, 26, 27, 28, 29, 30, 31]) $$ F_recvRes_rsR_0 with ⟨T484, F_recvRes_rsR_0⟩
  rw [wp_bind]
  iapply (part37_spec' m K c _ (insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))
  isplitl [T483]
  · iexact T483
  isplitl [T484]
  · iexact T484
  isplitl []
  · iexact Hlev
  isplitl [H_owes]
  · iexact H_owes
  iintro %r ⟨P485, P486, P487, P488, H_owes⟩
  try dsimp only
  ihave F_got_rsR_0 := (bigSepL_snoc (fun k : Fin 32 => gotRsR m c 0 k) [0, 1, 2, 3] 4 [0, 1, 2, 3, 4] rfl) $$ [F_got_rsR_0 P485]
  · isplitl [F_got_rsR_0] <;> iassumption
  ihave F_closed_rsR_0 := (bigSepL_snoc (fun k : Fin 32 => closedAt m K c 0 k rsR) [1, 2, 3] 4 [1, 2, 3, 4] rfl) $$ [F_closed_rsR_0 P486]
  · isplitl [F_closed_rsR_0] <;> iassumption
  ihave F_got_rsR_0 := (bigSepL_snoc (fun k : Fin 32 => gotRsR m c 0 k) [0, 1, 2, 3, 4] 5 [0, 1, 2, 3, 4, 5] rfl) $$ [F_got_rsR_0 P487]
  · isplitl [F_got_rsR_0] <;> iassumption
  ihave F_closed_rsR_0 := (bigSepL_snoc (fun k : Fin 32 => closedAt m K c 0 k rsR) [1, 2, 3, 4] 5 [1, 2, 3, 4, 5] rfl) $$ [F_closed_rsR_0 P488]
  · isplitl [F_closed_rsR_0] <;> iassumption
  -- k0_part38
  icases (bigSepL_pop (fun k : Fin 32 => recvRes m K rsR c 0 k) 6 7 [8, 9, 10, 11, 12, 13, 14, 15, 16, 17, 18, 19, 20, 21, 22, 23, 24, 25, 26, 27, 28, 29, 30, 31]) $$ F_recvRes_rsR_0 with ⟨T489, F_recvRes_rsR_0⟩
  icases (bigSepL_pop (fun k : Fin 32 => recvRes m K rsR c 0 k) 7 8 [9, 10, 11, 12, 13, 14, 15, 16, 17, 18, 19, 20, 21, 22, 23, 24, 25, 26, 27, 28, 29, 30, 31]) $$ F_recvRes_rsR_0 with ⟨T490, F_recvRes_rsR_0⟩
  rw [wp_bind]
  iapply (part38_spec' m K c _ (insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))
  isplitl [T489]
  · iexact T489
  isplitl [T490]
  · iexact T490
  isplitl []
  · iexact Hlev
  isplitl [H_owes]
  · iexact H_owes
  iintro %r ⟨P491, P492, P493, P494, H_owes⟩
  try dsimp only
  ihave F_got_rsR_0 := (bigSepL_snoc (fun k : Fin 32 => gotRsR m c 0 k) [0, 1, 2, 3, 4, 5] 6 [0, 1, 2, 3, 4, 5, 6] rfl) $$ [F_got_rsR_0 P491]
  · isplitl [F_got_rsR_0] <;> iassumption
  ihave F_closed_rsR_0 := (bigSepL_snoc (fun k : Fin 32 => closedAt m K c 0 k rsR) [1, 2, 3, 4, 5] 6 [1, 2, 3, 4, 5, 6] rfl) $$ [F_closed_rsR_0 P492]
  · isplitl [F_closed_rsR_0] <;> iassumption
  ihave F_got_rsR_0 := (bigSepL_snoc (fun k : Fin 32 => gotRsR m c 0 k) [0, 1, 2, 3, 4, 5, 6] 7 [0, 1, 2, 3, 4, 5, 6, 7] rfl) $$ [F_got_rsR_0 P493]
  · isplitl [F_got_rsR_0] <;> iassumption
  ihave F_closed_rsR_0 := (bigSepL_snoc (fun k : Fin 32 => closedAt m K c 0 k rsR) [1, 2, 3, 4, 5, 6] 7 [1, 2, 3, 4, 5, 6, 7] rfl) $$ [F_closed_rsR_0 P494]
  · isplitl [F_closed_rsR_0] <;> iassumption
  -- k0_part39
  icases (bigSepL_pop (fun k : Fin 32 => recvRes m K rsR c 0 k) 8 9 [10, 11, 12, 13, 14, 15, 16, 17, 18, 19, 20, 21, 22, 23, 24, 25, 26, 27, 28, 29, 30, 31]) $$ F_recvRes_rsR_0 with ⟨T495, F_recvRes_rsR_0⟩
  icases (bigSepL_pop (fun k : Fin 32 => recvRes m K rsR c 0 k) 9 10 [11, 12, 13, 14, 15, 16, 17, 18, 19, 20, 21, 22, 23, 24, 25, 26, 27, 28, 29, 30, 31]) $$ F_recvRes_rsR_0 with ⟨T496, F_recvRes_rsR_0⟩
  icases (bigSepL_pop (fun k : Fin 32 => recvRes m K rsR c 0 k) 10 11 [12, 13, 14, 15, 16, 17, 18, 19, 20, 21, 22, 23, 24, 25, 26, 27, 28, 29, 30, 31]) $$ F_recvRes_rsR_0 with ⟨T497, F_recvRes_rsR_0⟩
  rw [wp_bind]
  iapply (part39_spec' m K c _ (insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))
  isplitl [T495]
  · iexact T495
  isplitl [T496]
  · iexact T496
  isplitl [T497]
  · iexact T497
  isplitl []
  · iexact Hlev
  isplitl [H_owes]
  · iexact H_owes
  iintro %r ⟨P498, P499, P500, P501, P502, P503, H_owes⟩
  try dsimp only
  ihave F_got_rsR_0 := (bigSepL_snoc (fun k : Fin 32 => gotRsR m c 0 k) [0, 1, 2, 3, 4, 5, 6, 7] 8 [0, 1, 2, 3, 4, 5, 6, 7, 8] rfl) $$ [F_got_rsR_0 P498]
  · isplitl [F_got_rsR_0] <;> iassumption
  ihave F_closed_rsR_0 := (bigSepL_snoc (fun k : Fin 32 => closedAt m K c 0 k rsR) [1, 2, 3, 4, 5, 6, 7] 8 [1, 2, 3, 4, 5, 6, 7, 8] rfl) $$ [F_closed_rsR_0 P499]
  · isplitl [F_closed_rsR_0] <;> iassumption
  ihave F_got_rsR_0 := (bigSepL_snoc (fun k : Fin 32 => gotRsR m c 0 k) [0, 1, 2, 3, 4, 5, 6, 7, 8] 9 [0, 1, 2, 3, 4, 5, 6, 7, 8, 9] rfl) $$ [F_got_rsR_0 P500]
  · isplitl [F_got_rsR_0] <;> iassumption
  ihave F_closed_rsR_0 := (bigSepL_snoc (fun k : Fin 32 => closedAt m K c 0 k rsR) [1, 2, 3, 4, 5, 6, 7, 8] 9 [1, 2, 3, 4, 5, 6, 7, 8, 9] rfl) $$ [F_closed_rsR_0 P501]
  · isplitl [F_closed_rsR_0] <;> iassumption
  ihave F_got_rsR_0 := (bigSepL_snoc (fun k : Fin 32 => gotRsR m c 0 k) [0, 1, 2, 3, 4, 5, 6, 7, 8, 9] 10 [0, 1, 2, 3, 4, 5, 6, 7, 8, 9, 10] rfl) $$ [F_got_rsR_0 P502]
  · isplitl [F_got_rsR_0] <;> iassumption
  ihave F_closed_rsR_0 := (bigSepL_snoc (fun k : Fin 32 => closedAt m K c 0 k rsR) [1, 2, 3, 4, 5, 6, 7, 8, 9] 10 [1, 2, 3, 4, 5, 6, 7, 8, 9, 10] rfl) $$ [F_closed_rsR_0 P503]
  · isplitl [F_closed_rsR_0] <;> iassumption
  -- k0_part40
  icases (bigSepL_pop (fun k : Fin 32 => recvRes m K rsR c 0 k) 11 12 [13, 14, 15, 16, 17, 18, 19, 20, 21, 22, 23, 24, 25, 26, 27, 28, 29, 30, 31]) $$ F_recvRes_rsR_0 with ⟨T504, F_recvRes_rsR_0⟩
  icases (bigSepL_pop (fun k : Fin 32 => recvRes m K rsR c 0 k) 12 13 [14, 15, 16, 17, 18, 19, 20, 21, 22, 23, 24, 25, 26, 27, 28, 29, 30, 31]) $$ F_recvRes_rsR_0 with ⟨T505, F_recvRes_rsR_0⟩
  rw [wp_bind]
  iapply (part40_spec' m K c _ (insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))
  isplitl [T504]
  · iexact T504
  isplitl [T505]
  · iexact T505
  isplitl []
  · iexact Hlev
  isplitl [H_owes]
  · iexact H_owes
  iintro %v1034 ⟨P506, P507, P508, P509, H_owes⟩
  try dsimp only
  ihave F_got_rsR_0 := (bigSepL_snoc (fun k : Fin 32 => gotRsR m c 0 k) [0, 1, 2, 3, 4, 5, 6, 7, 8, 9, 10] 11 [0, 1, 2, 3, 4, 5, 6, 7, 8, 9, 10, 11] rfl) $$ [F_got_rsR_0 P506]
  · isplitl [F_got_rsR_0] <;> iassumption
  ihave F_closed_rsR_0 := (bigSepL_snoc (fun k : Fin 32 => closedAt m K c 0 k rsR) [1, 2, 3, 4, 5, 6, 7, 8, 9, 10] 11 [1, 2, 3, 4, 5, 6, 7, 8, 9, 10, 11] rfl) $$ [F_closed_rsR_0 P507]
  · isplitl [F_closed_rsR_0] <;> iassumption
  ihave F_got_rsR_0 := (bigSepL_snoc (fun k : Fin 32 => gotRsR m c 0 k) [0, 1, 2, 3, 4, 5, 6, 7, 8, 9, 10, 11] 12 [0, 1, 2, 3, 4, 5, 6, 7, 8, 9, 10, 11, 12] rfl) $$ [F_got_rsR_0 P508]
  · isplitl [F_got_rsR_0] <;> iassumption
  ihave F_closed_rsR_0 := (bigSepL_snoc (fun k : Fin 32 => closedAt m K c 0 k rsR) [1, 2, 3, 4, 5, 6, 7, 8, 9, 10, 11] 12 [1, 2, 3, 4, 5, 6, 7, 8, 9, 10, 11, 12] rfl) $$ [F_closed_rsR_0 P509]
  · isplitl [F_closed_rsR_0] <;> iassumption
  -- k0_part41
  icases (bigSepL_pop (fun k : Fin 32 => recvRes m K rsR c 0 k) 13 14 [15, 16, 17, 18, 19, 20, 21, 22, 23, 24, 25, 26, 27, 28, 29, 30, 31]) $$ F_recvRes_rsR_0 with ⟨T510, F_recvRes_rsR_0⟩
  icases (bigSepL_pop (fun k : Fin 32 => recvRes m K rsR c 0 k) 14 15 [16, 17, 18, 19, 20, 21, 22, 23, 24, 25, 26, 27, 28, 29, 30, 31]) $$ F_recvRes_rsR_0 with ⟨T511, F_recvRes_rsR_0⟩
  rw [wp_bind]
  iapply (part41_spec' m K c _ _ (insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))
  isplitl [T510]
  · iexact T510
  isplitl [T511]
  · iexact T511
  isplitl []
  · iexact Hlev
  isplitl [H_owes]
  · iexact H_owes
  iintro %v1057 ⟨P512, P513, P514, P515, H_owes⟩
  try dsimp only
  ihave F_got_rsR_0 := (bigSepL_snoc (fun k : Fin 32 => gotRsR m c 0 k) [0, 1, 2, 3, 4, 5, 6, 7, 8, 9, 10, 11, 12] 13 [0, 1, 2, 3, 4, 5, 6, 7, 8, 9, 10, 11, 12, 13] rfl) $$ [F_got_rsR_0 P512]
  · isplitl [F_got_rsR_0] <;> iassumption
  ihave F_closed_rsR_0 := (bigSepL_snoc (fun k : Fin 32 => closedAt m K c 0 k rsR) [1, 2, 3, 4, 5, 6, 7, 8, 9, 10, 11, 12] 13 [1, 2, 3, 4, 5, 6, 7, 8, 9, 10, 11, 12, 13] rfl) $$ [F_closed_rsR_0 P513]
  · isplitl [F_closed_rsR_0] <;> iassumption
  ihave F_got_rsR_0 := (bigSepL_snoc (fun k : Fin 32 => gotRsR m c 0 k) [0, 1, 2, 3, 4, 5, 6, 7, 8, 9, 10, 11, 12, 13] 14 [0, 1, 2, 3, 4, 5, 6, 7, 8, 9, 10, 11, 12, 13, 14] rfl) $$ [F_got_rsR_0 P514]
  · isplitl [F_got_rsR_0] <;> iassumption
  ihave F_closed_rsR_0 := (bigSepL_snoc (fun k : Fin 32 => closedAt m K c 0 k rsR) [1, 2, 3, 4, 5, 6, 7, 8, 9, 10, 11, 12, 13] 14 [1, 2, 3, 4, 5, 6, 7, 8, 9, 10, 11, 12, 13, 14] rfl) $$ [F_closed_rsR_0 P515]
  · isplitl [F_closed_rsR_0] <;> iassumption
  -- k0_part42
  icases (bigSepL_pop (fun k : Fin 32 => recvRes m K rsR c 0 k) 15 16 [17, 18, 19, 20, 21, 22, 23, 24, 25, 26, 27, 28, 29, 30, 31]) $$ F_recvRes_rsR_0 with ⟨T516, F_recvRes_rsR_0⟩
  icases (bigSepL_pop (fun k : Fin 32 => recvRes m K rsR c 0 k) 16 17 [18, 19, 20, 21, 22, 23, 24, 25, 26, 27, 28, 29, 30, 31]) $$ F_recvRes_rsR_0 with ⟨T517, F_recvRes_rsR_0⟩
  rw [wp_bind]
  iapply (part42_spec' m K c _ _ (insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))
  isplitl [T516]
  · iexact T516
  isplitl [T517]
  · iexact T517
  isplitl []
  · iexact Hlev
  isplitl [H_owes]
  · iexact H_owes
  iintro %v1080 ⟨P518, P519, P520, P521, H_owes⟩
  try dsimp only
  ihave F_got_rsR_0 := (bigSepL_snoc (fun k : Fin 32 => gotRsR m c 0 k) [0, 1, 2, 3, 4, 5, 6, 7, 8, 9, 10, 11, 12, 13, 14] 15 [0, 1, 2, 3, 4, 5, 6, 7, 8, 9, 10, 11, 12, 13, 14, 15] rfl) $$ [F_got_rsR_0 P518]
  · isplitl [F_got_rsR_0] <;> iassumption
  ihave F_closed_rsR_0 := (bigSepL_snoc (fun k : Fin 32 => closedAt m K c 0 k rsR) [1, 2, 3, 4, 5, 6, 7, 8, 9, 10, 11, 12, 13, 14] 15 [1, 2, 3, 4, 5, 6, 7, 8, 9, 10, 11, 12, 13, 14, 15] rfl) $$ [F_closed_rsR_0 P519]
  · isplitl [F_closed_rsR_0] <;> iassumption
  ihave F_got_rsR_0 := (bigSepL_snoc (fun k : Fin 32 => gotRsR m c 0 k) [0, 1, 2, 3, 4, 5, 6, 7, 8, 9, 10, 11, 12, 13, 14, 15] 16 [0, 1, 2, 3, 4, 5, 6, 7, 8, 9, 10, 11, 12, 13, 14, 15, 16] rfl) $$ [F_got_rsR_0 P520]
  · isplitl [F_got_rsR_0] <;> iassumption
  ihave F_closed_rsR_0 := (bigSepL_snoc (fun k : Fin 32 => closedAt m K c 0 k rsR) [1, 2, 3, 4, 5, 6, 7, 8, 9, 10, 11, 12, 13, 14, 15] 16 [1, 2, 3, 4, 5, 6, 7, 8, 9, 10, 11, 12, 13, 14, 15, 16] rfl) $$ [F_closed_rsR_0 P521]
  · isplitl [F_closed_rsR_0] <;> iassumption
  -- k0_part43
  icases (bigSepL_pop (fun k : Fin 32 => recvRes m K rsR c 0 k) 17 18 [19, 20, 21, 22, 23, 24, 25, 26, 27, 28, 29, 30, 31]) $$ F_recvRes_rsR_0 with ⟨T522, F_recvRes_rsR_0⟩
  icases (bigSepL_pop (fun k : Fin 32 => recvRes m K rsR c 0 k) 18 19 [20, 21, 22, 23, 24, 25, 26, 27, 28, 29, 30, 31]) $$ F_recvRes_rsR_0 with ⟨T523, F_recvRes_rsR_0⟩
  rw [wp_bind]
  iapply (part43_spec' m K c _ _ (insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))
  isplitl [T522]
  · iexact T522
  isplitl [T523]
  · iexact T523
  isplitl []
  · iexact Hlev
  isplitl [H_owes]
  · iexact H_owes
  iintro %v1102 ⟨P524, P525, P526, P527, H_owes⟩
  try dsimp only
  ihave F_got_rsR_0 := (bigSepL_snoc (fun k : Fin 32 => gotRsR m c 0 k) [0, 1, 2, 3, 4, 5, 6, 7, 8, 9, 10, 11, 12, 13, 14, 15, 16] 17 [0, 1, 2, 3, 4, 5, 6, 7, 8, 9, 10, 11, 12, 13, 14, 15, 16, 17] rfl) $$ [F_got_rsR_0 P524]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16] 17 [1, 2, 3, 4, 5, 6, 7, 8, 9, 10, 11, 12, 13, 14, 15, 16, 17] rfl) $$ [F_closed_rsR_0 P525]
  · isplitl [F_closed_rsR_0] <;> iassumption
  ihave F_got_rsR_0 := (bigSepL_snoc (fun k : Fin 32 => gotRsR m c 0 k) [0, 1, 2, 3, 4, 5, 6, 7, 8, 9, 10, 11, 12, 13, 14, 15, 16, 17] 18 [0, 1, 2, 3, 4, 5, 6, 7, 8, 9, 10, 11, 12, 13, 14, 15, 16, 17, 18] rfl) $$ [F_got_rsR_0 P526]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17] 18 [1, 2, 3, 4, 5, 6, 7, 8, 9, 10, 11, 12, 13, 14, 15, 16, 17, 18] rfl) $$ [F_closed_rsR_0 P527]
  · isplitl [F_closed_rsR_0] <;> iassumption
  -- k0_part44
  icases (bigSepL_pop (fun k : Fin 32 => recvRes m K rsR c 0 k) 19 20 [21, 22, 23, 24, 25, 26, 27, 28, 29, 30, 31]) $$ F_recvRes_rsR_0 with ⟨T528, F_recvRes_rsR_0⟩
  icases (bigSepL_pop (fun k : Fin 32 => recvRes m K rsR c 0 k) 20 21 [22, 23, 24, 25, 26, 27, 28, 29, 30, 31]) $$ F_recvRes_rsR_0 with ⟨T529, F_recvRes_rsR_0⟩
  rw [wp_bind]
  iapply (part44_spec' m K c _ _ (insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))
  isplitl [T528]
  · iexact T528
  isplitl [T529]
  · iexact T529
  isplitl []
  · iexact Hlev
  isplitl [H_owes]
  · iexact H_owes
  iintro %v1124 ⟨P530, P531, P532, P533, H_owes⟩
  try dsimp only
  ihave F_got_rsR_0 := (bigSepL_snoc (fun k : Fin 32 => gotRsR m c 0 k) [0, 1, 2, 3, 4, 5, 6, 7, 8, 9, 10, 11, 12, 13, 14, 15, 16, 17, 18] 19 [0, 1, 2, 3, 4, 5, 6, 7, 8, 9, 10, 11, 12, 13, 14, 15, 16, 17, 18, 19] rfl) $$ [F_got_rsR_0 P530]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_closed_rsR_0 P531]
  · isplitl [F_closed_rsR_0] <;> iassumption
  ihave F_got_rsR_0 := (bigSepL_snoc (fun k : Fin 32 => gotRsR m c 0 k) [0, 1, 2, 3, 4, 5, 6, 7, 8, 9, 10, 11, 12, 13, 14, 15, 16, 17, 18, 19] 20 [0, 1, 2, 3, 4, 5, 6, 7, 8, 9, 10, 11, 12, 13, 14, 15, 16, 17, 18, 19, 20] rfl) $$ [F_got_rsR_0 P532]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_closed_rsR_0 P533]
  · isplitl [F_closed_rsR_0] <;> iassumption
  -- k0_part45
  icases (bigSepL_pop (fun k : Fin 32 => recvRes m K rsR c 0 k) 21 22 [23, 24, 25, 26, 27, 28, 29, 30, 31]) $$ F_recvRes_rsR_0 with ⟨T534, F_recvRes_rsR_0⟩
  icases (bigSepL_pop (fun k : Fin 32 => recvRes m K rsR c 0 k) 22 23 [24, 25, 26, 27, 28, 29, 30, 31]) $$ F_recvRes_rsR_0 with ⟨T535, F_recvRes_rsR_0⟩
  rw [wp_bind]
  iapply (part45_spec' m K c _ _ (insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))
  isplitl [T534]
  · iexact T534
  isplitl [T535]
  · iexact T535
  isplitl []
  · iexact Hlev
  isplitl [H_owes]
  · iexact H_owes
  iintro %v1146 ⟨P536, P537, P538, P539, H_owes⟩
  try dsimp only
  ihave F_got_rsR_0 := (bigSepL_snoc (fun k : Fin 32 => gotRsR m c 0 k) [0, 1, 2, 3, 4, 5, 6, 7, 8, 9, 10, 11, 12, 13, 14, 15, 16, 17, 18, 19, 20] 21 [0, 1, 2, 3, 4, 5, 6, 7, 8, 9, 10, 11, 12, 13, 14, 15, 16, 17, 18, 19, 20, 21] rfl) $$ [F_got_rsR_0 P536]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_closed_rsR_0 P537]
  · isplitl [F_closed_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21] 22 [0, 1, 2, 3, 4, 5, 6, 7, 8, 9, 10, 11, 12, 13, 14, 15, 16, 17, 18, 19, 20, 21, 22] rfl) $$ [F_got_rsR_0 P538]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_closed_rsR_0 P539]
  · isplitl [F_closed_rsR_0] <;> iassumption
  -- k0_part46
  icases (bigSepL_pop (fun k : Fin 32 => recvRes m K rsR c 0 k) 23 24 [25, 26, 27, 28, 29, 30, 31]) $$ F_recvRes_rsR_0 with ⟨T540, F_recvRes_rsR_0⟩
  icases (bigSepL_pop (fun k : Fin 32 => recvRes m K rsR c 0 k) 24 25 [26, 27, 28, 29, 30, 31]) $$ F_recvRes_rsR_0 with ⟨T541, F_recvRes_rsR_0⟩
  rw [wp_bind]
  iapply (part46_spec' m K c _ _ (insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))
  isplitl [T540]
  · iexact T540
  isplitl [T541]
  · iexact T541
  isplitl []
  · iexact Hlev
  isplitl [H_owes]
  · iexact H_owes
  iintro %v1168 ⟨P542, P543, P544, P545, H_owes⟩
  try dsimp only
  ihave F_got_rsR_0 := (bigSepL_snoc (fun k : Fin 32 => gotRsR m c 0 k) [0, 1, 2, 3, 4, 5, 6, 7, 8, 9, 10, 11, 12, 13, 14, 15, 16, 17, 18, 19, 20, 21, 22] 23 [0, 1, 2, 3, 4, 5, 6, 7, 8, 9, 10, 11, 12, 13, 14, 15, 16, 17, 18, 19, 20, 21, 22, 23] rfl) $$ [F_got_rsR_0 P542]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_closed_rsR_0 P543]
  · isplitl [F_closed_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23] 24 [0, 1, 2, 3, 4, 5, 6, 7, 8, 9, 10, 11, 12, 13, 14, 15, 16, 17, 18, 19, 20, 21, 22, 23, 24] rfl) $$ [F_got_rsR_0 P544]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_closed_rsR_0 P545]
  · isplitl [F_closed_rsR_0] <;> iassumption
  -- k0_part47
  icases (bigSepL_pop (fun k : Fin 32 => recvRes m K rsR c 0 k) 25 26 [27, 28, 29, 30, 31]) $$ F_recvRes_rsR_0 with ⟨T546, F_recvRes_rsR_0⟩
  icases (bigSepL_pop (fun k : Fin 32 => recvRes m K rsR c 0 k) 26 27 [28, 29, 30, 31]) $$ F_recvRes_rsR_0 with ⟨T547, F_recvRes_rsR_0⟩
  rw [wp_bind]
  iapply (part47_spec' m K c _ _ (insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))
  isplitl [T546]
  · iexact T546
  isplitl [T547]
  · iexact T547
  isplitl []
  · iexact Hlev
  isplitl [H_owes]
  · iexact H_owes
  iintro %v1191 ⟨P548, P549, P550, P551, H_owes⟩
  try dsimp only
  ihave F_got_rsR_0 := (bigSepL_snoc (fun k : Fin 32 => gotRsR m c 0 k) [0, 1, 2, 3, 4, 5, 6, 7, 8, 9, 10, 11, 12, 13, 14, 15, 16, 17, 18, 19, 20, 21, 22, 23, 24] 25 [0, 1, 2, 3, 4, 5, 6, 7, 8, 9, 10, 11, 12, 13, 14, 15, 16, 17, 18, 19, 20, 21, 22, 23, 24, 25] rfl) $$ [F_got_rsR_0 P548]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_closed_rsR_0 P549]
  · isplitl [F_closed_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25] 26 [0, 1, 2, 3, 4, 5, 6, 7, 8, 9, 10, 11, 12, 13, 14, 15, 16, 17, 18, 19, 20, 21, 22, 23, 24, 25, 26] rfl) $$ [F_got_rsR_0 P550]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_closed_rsR_0 P551]
  · isplitl [F_closed_rsR_0] <;> iassumption
  -- k0_part48
  icases (bigSepL_pop (fun k : Fin 32 => recvRes m K rsR c 0 k) 27 28 [29, 30, 31]) $$ F_recvRes_rsR_0 with ⟨T552, F_recvRes_rsR_0⟩
  icases (bigSepL_pop (fun k : Fin 32 => recvRes m K rsR c 0 k) 28 29 [30, 31]) $$ F_recvRes_rsR_0 with ⟨T553, F_recvRes_rsR_0⟩
  rw [wp_bind]
  iapply (part48_spec' m K c _ _ (insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))
  isplitl [T552]
  · iexact T552
  isplitl [T553]
  · iexact T553
  isplitl []
  · iexact Hlev
  isplitl [H_owes]
  · iexact H_owes
  iintro %r ⟨P554, P555, P556, P557, H_owes⟩
  try dsimp only
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26] 27 [0, 1, 2, 3, 4, 5, 6, 7, 8, 9, 10, 11, 12, 13, 14, 15, 16, 17, 18, 19, 20, 21, 22, 23, 24, 25, 26, 27] rfl) $$ [F_got_rsR_0 P554]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_closed_rsR_0 P555]
  · isplitl [F_closed_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26, 27] 28 [0, 1, 2, 3, 4, 5, 6, 7, 8, 9, 10, 11, 12, 13, 14, 15, 16, 17, 18, 19, 20, 21, 22, 23, 24, 25, 26, 27, 28] rfl) $$ [F_got_rsR_0 P556]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_closed_rsR_0 P557]
  · isplitl [F_closed_rsR_0] <;> iassumption
  -- k0_part49
  icases (bigSepL_pop (fun k : Fin 32 => recvRes m K rsR c 0 k) 29 30 [31]) $$ F_recvRes_rsR_0 with ⟨T558, F_recvRes_rsR_0⟩
  icases (bigSepL_pop (fun k : Fin 32 => recvRes m K rsR c 0 k) 30 31 []) $$ F_recvRes_rsR_0 with ⟨T559, F_recvRes_rsR_0⟩
  rw [wp_bind]
  iapply (part49_spec' m K c _ (insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))
  isplitl [T558]
  · iexact T558
  isplitl [T559]
  · iexact T559
  isplitl []
  · iexact Hlev
  isplitl [H_owes]
  · iexact H_owes
  iintro %r ⟨P560, P561, P562, P563, H_owes⟩
  try dsimp only
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26, 27, 28] 29 [0, 1, 2, 3, 4, 5, 6, 7, 8, 9, 10, 11, 12, 13, 14, 15, 16, 17, 18, 19, 20, 21, 22, 23, 24, 25, 26, 27, 28, 29] rfl) $$ [F_got_rsR_0 P560]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_closed_rsR_0 P561]
  · isplitl [F_closed_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26, 27, 28, 29] 30 [0, 1, 2, 3, 4, 5, 6, 7, 8, 9, 10, 11, 12, 13, 14, 15, 16, 17, 18, 19, 20, 21, 22, 23, 24, 25, 26, 27, 28, 29, 30] rfl) $$ [F_got_rsR_0 P562]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_closed_rsR_0 P563]
  · isplitl [F_closed_rsR_0] <;> iassumption
  -- k0_part50
  ihave T564 := (bigSepL_one (fun k : Fin 32 => recvRes m K rsR c 0 k) 31) $$ F_recvRes_rsR_0
  icases (bigSepL_pop (fun k : Fin 32 => gotRsR m c 0 k) 0 1 [2, 3, 4, 5, 6, 7, 8, 9, 10, 11, 12, 13, 14, 15, 16, 17, 18, 19, 20, 21, 22, 23, 24, 25, 26, 27, 28, 29, 30]) $$ F_got_rsR_0 with ⟨T565, F_got_rsR_0⟩
  icases (bigSepL_pop (fun k : Fin 32 => gotRsR m c 0 k) 1 2 [3, 4, 5, 6, 7, 8, 9, 10, 11, 12, 13, 14, 15, 16, 17, 18, 19, 20, 21, 22, 23, 24, 25, 26, 27, 28, 29, 30]) $$ F_got_rsR_0 with ⟨T566, F_got_rsR_0⟩
  icases (bigSepL_pop (fun k : Fin 32 => gotRsR m c 0 k) 2 3 [4, 5, 6, 7, 8, 9, 10, 11, 12, 13, 14, 15, 16, 17, 18, 19, 20, 21, 22, 23, 24, 25, 26, 27, 28, 29, 30]) $$ F_got_rsR_0 with ⟨T567, F_got_rsR_0⟩
  icases (bigSepL_pop (fun k : Fin 32 => gotRsR m c 0 k) 3 4 [5, 6, 7, 8, 9, 10, 11, 12, 13, 14, 15, 16, 17, 18, 19, 20, 21, 22, 23, 24, 25, 26, 27, 28, 29, 30]) $$ F_got_rsR_0 with ⟨T568, F_got_rsR_0⟩
  icases (bigSepL_pop (fun k : Fin 32 => gotRsR m c 0 k) 4 5 [6, 7, 8, 9, 10, 11, 12, 13, 14, 15, 16, 17, 18, 19, 20, 21, 22, 23, 24, 25, 26, 27, 28, 29, 30]) $$ F_got_rsR_0 with ⟨T569, F_got_rsR_0⟩
  icases (bigSepL_pop (fun k : Fin 32 => gotRsR m c 0 k) 5 6 [7, 8, 9, 10, 11, 12, 13, 14, 15, 16, 17, 18, 19, 20, 21, 22, 23, 24, 25, 26, 27, 28, 29, 30]) $$ F_got_rsR_0 with ⟨T570, F_got_rsR_0⟩
  icases (bigSepL_pop (fun k : Fin 32 => gotRsR m c 0 k) 6 7 [8, 9, 10, 11, 12, 13, 14, 15, 16, 17, 18, 19, 20, 21, 22, 23, 24, 25, 26, 27, 28, 29, 30]) $$ F_got_rsR_0 with ⟨T571, F_got_rsR_0⟩
  icases (bigSepL_pop (fun k : Fin 32 => gotRsR m c 0 k) 7 8 [9, 10, 11, 12, 13, 14, 15, 16, 17, 18, 19, 20, 21, 22, 23, 24, 25, 26, 27, 28, 29, 30]) $$ F_got_rsR_0 with ⟨T572, F_got_rsR_0⟩
  icases (bigSepL_pop (fun k : Fin 32 => gotRsR m c 0 k) 8 9 [10, 11, 12, 13, 14, 15, 16, 17, 18, 19, 20, 21, 22, 23, 24, 25, 26, 27, 28, 29, 30]) $$ F_got_rsR_0 with ⟨T573, F_got_rsR_0⟩
  icases (bigSepL_pop (fun k : Fin 32 => gotRsR m c 0 k) 9 10 [11, 12, 13, 14, 15, 16, 17, 18, 19, 20, 21, 22, 23, 24, 25, 26, 27, 28, 29, 30]) $$ F_got_rsR_0 with ⟨T574, F_got_rsR_0⟩
  icases (bigSepL_pop (fun k : Fin 32 => gotRsR m c 0 k) 10 11 [12, 13, 14, 15, 16, 17, 18, 19, 20, 21, 22, 23, 24, 25, 26, 27, 28, 29, 30]) $$ F_got_rsR_0 with ⟨T575, F_got_rsR_0⟩
  icases (bigSepL_pop (fun k : Fin 32 => gotRsR m c 0 k) 11 12 [13, 14, 15, 16, 17, 18, 19, 20, 21, 22, 23, 24, 25, 26, 27, 28, 29, 30]) $$ F_got_rsR_0 with ⟨T576, F_got_rsR_0⟩
  icases (bigSepL_pop (fun k : Fin 32 => gotRsR m c 0 k) 12 13 [14, 15, 16, 17, 18, 19, 20, 21, 22, 23, 24, 25, 26, 27, 28, 29, 30]) $$ F_got_rsR_0 with ⟨T577, F_got_rsR_0⟩
  icases (bigSepL_pop (fun k : Fin 32 => gotRsR m c 0 k) 13 14 [15, 16, 17, 18, 19, 20, 21, 22, 23, 24, 25, 26, 27, 28, 29, 30]) $$ F_got_rsR_0 with ⟨T578, F_got_rsR_0⟩
  icases (bigSepL_pop (fun k : Fin 32 => gotRsR m c 0 k) 14 15 [16, 17, 18, 19, 20, 21, 22, 23, 24, 25, 26, 27, 28, 29, 30]) $$ F_got_rsR_0 with ⟨T579, F_got_rsR_0⟩
  icases (bigSepL_pop (fun k : Fin 32 => gotRsR m c 0 k) 15 16 [17, 18, 19, 20, 21, 22, 23, 24, 25, 26, 27, 28, 29, 30]) $$ F_got_rsR_0 with ⟨T580, F_got_rsR_0⟩
  icases (bigSepL_pop (fun k : Fin 32 => gotRsR m c 0 k) 16 17 [18, 19, 20, 21, 22, 23, 24, 25, 26, 27, 28, 29, 30]) $$ F_got_rsR_0 with ⟨T581, F_got_rsR_0⟩
  icases (bigSepL_pop (fun k : Fin 32 => gotRsR m c 0 k) 17 18 [19, 20, 21, 22, 23, 24, 25, 26, 27, 28, 29, 30]) $$ F_got_rsR_0 with ⟨T582, F_got_rsR_0⟩
  icases (bigSepL_pop (fun k : Fin 32 => gotRsR m c 0 k) 18 19 [20, 21, 22, 23, 24, 25, 26, 27, 28, 29, 30]) $$ F_got_rsR_0 with ⟨T583, F_got_rsR_0⟩
  icases (bigSepL_pop (fun k : Fin 32 => gotRsR m c 0 k) 19 20 [21, 22, 23, 24, 25, 26, 27, 28, 29, 30]) $$ F_got_rsR_0 with ⟨T584, F_got_rsR_0⟩
  icases (bigSepL_pop (fun k : Fin 32 => gotRsR m c 0 k) 20 21 [22, 23, 24, 25, 26, 27, 28, 29, 30]) $$ F_got_rsR_0 with ⟨T585, F_got_rsR_0⟩
  icases (bigSepL_pop (fun k : Fin 32 => gotRsR m c 0 k) 21 22 [23, 24, 25, 26, 27, 28, 29, 30]) $$ F_got_rsR_0 with ⟨T586, F_got_rsR_0⟩
  icases (bigSepL_pop (fun k : Fin 32 => gotRsR m c 0 k) 22 23 [24, 25, 26, 27, 28, 29, 30]) $$ F_got_rsR_0 with ⟨T587, F_got_rsR_0⟩
  icases (bigSepL_pop (fun k : Fin 32 => gotRsR m c 0 k) 23 24 [25, 26, 27, 28, 29, 30]) $$ F_got_rsR_0 with ⟨T588, F_got_rsR_0⟩
  icases (bigSepL_pop (fun k : Fin 32 => gotRsR m c 0 k) 24 25 [26, 27, 28, 29, 30]) $$ F_got_rsR_0 with ⟨T589, F_got_rsR_0⟩
  icases (bigSepL_pop (fun k : Fin 32 => gotRsR m c 0 k) 25 26 [27, 28, 29, 30]) $$ F_got_rsR_0 with ⟨T590, F_got_rsR_0⟩
  icases (bigSepL_pop (fun k : Fin 32 => gotRsR m c 0 k) 26 27 [28, 29, 30]) $$ F_got_rsR_0 with ⟨T591, F_got_rsR_0⟩
  icases (bigSepL_pop (fun k : Fin 32 => gotRsR m c 0 k) 27 28 [29, 30]) $$ F_got_rsR_0 with ⟨T592, F_got_rsR_0⟩
  icases (bigSepL_pop (fun k : Fin 32 => gotRsR m c 0 k) 28 29 [30]) $$ F_got_rsR_0 with ⟨T593, F_got_rsR_0⟩
  icases (bigSepL_pop (fun k : Fin 32 => gotRsR m c 0 k) 29 30 []) $$ F_got_rsR_0 with ⟨T594, F_got_rsR_0⟩
  ihave T595 := (bigSepL_one (fun k : Fin 32 => gotRsR m c 0 k) 30) $$ F_got_rsR_0
  ihave T596 := (bigSepL_one (fun k : Fin 32 => outAt c 0 k fo) 0) $$ F_out0_0
  rw [wp_bind]
  iapply (part50_spec' m K c _ fo (insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))
  isplitl [T564]
  · iexact T564
  isplitl []
  · iexact Hlev
  isplitl [T565]
  · iexact T565
  isplitl [T566]
  · iexact T566
  isplitl [T567]
  · iexact T567
  isplitl [T568]
  · iexact T568
  isplitl [T569]
  · iexact T569
  isplitl [T570]
  · iexact T570
  isplitl [T571]
  · iexact T571
  isplitl [T572]
  · iexact T572
  isplitl [T573]
  · iexact T573
  isplitl [T574]
  · iexact T574
  isplitl [T575]
  · iexact T575
  isplitl [T576]
  · iexact T576
  isplitl [T577]
  · iexact T577
  isplitl [T578]
  · iexact T578
  isplitl [T579]
  · iexact T579
  isplitl [T580]
  · iexact T580
  isplitl [T581]
  · iexact T581
  isplitl [T582]
  · iexact T582
  isplitl [T583]
  · iexact T583
  isplitl [T584]
  · iexact T584
  isplitl [T585]
  · iexact T585
  isplitl [T586]
  · iexact T586
  isplitl [T587]
  · iexact T587
  isplitl [T588]
  · iexact T588
  isplitl [T589]
  · iexact T589
  isplitl [T590]
  · iexact T590
  isplitl [T591]
  · iexact T591
  isplitl [T592]
  · iexact T592
  isplitl [T593]
  · iexact T593
  isplitl [T594]
  · iexact T594
  isplitl [T595]
  · iexact T595
  isplitl [T596]
  · iexact T596
  isplitl [H_owes]
  · iexact H_owes
  iintro %r ⟨P597, P598, P599, P600, P601, P602, P603, P604, P605, P606, P607, P608, P609, P610, P611, P612, P613, P614, P615, P616, P617, P618, P619, P620, P621, P622, P623, P624, P625, P626, P627, P628, P629, P630, P631, P632, P633, P634, P635, P636, P637, P638, P639, P640, P641, P642, P643, P644, P645, P646, P647, P648, P649, P650, P651, P652, P653, P654, P655, P656, P657, P658, P659, P660, P661, H_owes⟩
  try dsimp only
  ihave F_got_rsR_0 := (bigSepL_wrap (fun k : Fin 32 => gotRsR m c 0 k) 0) $$ P597
  ihave F_got_rsR_0 := (bigSepL_snoc (fun k : Fin 32 => gotRsR m c 0 k) [0] 1 [0, 1] rfl) $$ [F_got_rsR_0 P598]
  · isplitl [F_got_rsR_0] <;> iassumption
  ihave F_got_rsR_0 := (bigSepL_snoc (fun k : Fin 32 => gotRsR m c 0 k) [0, 1] 2 [0, 1, 2] rfl) $$ [F_got_rsR_0 P599]
  · isplitl [F_got_rsR_0] <;> iassumption
  ihave F_got_rsR_0 := (bigSepL_snoc (fun k : Fin 32 => gotRsR m c 0 k) [0, 1, 2] 3 [0, 1, 2, 3] rfl) $$ [F_got_rsR_0 P600]
  · isplitl [F_got_rsR_0] <;> iassumption
  ihave F_got_rsR_0 := (bigSepL_snoc (fun k : Fin 32 => gotRsR m c 0 k) [0, 1, 2, 3] 4 [0, 1, 2, 3, 4] rfl) $$ [F_got_rsR_0 P601]
  · isplitl [F_got_rsR_0] <;> iassumption
  ihave F_got_rsR_0 := (bigSepL_snoc (fun k : Fin 32 => gotRsR m c 0 k) [0, 1, 2, 3, 4] 5 [0, 1, 2, 3, 4, 5] rfl) $$ [F_got_rsR_0 P602]
  · isplitl [F_got_rsR_0] <;> iassumption
  ihave F_got_rsR_0 := (bigSepL_snoc (fun k : Fin 32 => gotRsR m c 0 k) [0, 1, 2, 3, 4, 5] 6 [0, 1, 2, 3, 4, 5, 6] rfl) $$ [F_got_rsR_0 P603]
  · isplitl [F_got_rsR_0] <;> iassumption
  ihave F_got_rsR_0 := (bigSepL_snoc (fun k : Fin 32 => gotRsR m c 0 k) [0, 1, 2, 3, 4, 5, 6] 7 [0, 1, 2, 3, 4, 5, 6, 7] rfl) $$ [F_got_rsR_0 P604]
  · isplitl [F_got_rsR_0] <;> iassumption
  ihave F_got_rsR_0 := (bigSepL_snoc (fun k : Fin 32 => gotRsR m c 0 k) [0, 1, 2, 3, 4, 5, 6, 7] 8 [0, 1, 2, 3, 4, 5, 6, 7, 8] rfl) $$ [F_got_rsR_0 P605]
  · isplitl [F_got_rsR_0] <;> iassumption
  ihave F_got_rsR_0 := (bigSepL_snoc (fun k : Fin 32 => gotRsR m c 0 k) [0, 1, 2, 3, 4, 5, 6, 7, 8] 9 [0, 1, 2, 3, 4, 5, 6, 7, 8, 9] rfl) $$ [F_got_rsR_0 P606]
  · isplitl [F_got_rsR_0] <;> iassumption
  ihave F_got_rsR_0 := (bigSepL_snoc (fun k : Fin 32 => gotRsR m c 0 k) [0, 1, 2, 3, 4, 5, 6, 7, 8, 9] 10 [0, 1, 2, 3, 4, 5, 6, 7, 8, 9, 10] rfl) $$ [F_got_rsR_0 P607]
  · isplitl [F_got_rsR_0] <;> iassumption
  ihave F_got_rsR_0 := (bigSepL_snoc (fun k : Fin 32 => gotRsR m c 0 k) [0, 1, 2, 3, 4, 5, 6, 7, 8, 9, 10] 11 [0, 1, 2, 3, 4, 5, 6, 7, 8, 9, 10, 11] rfl) $$ [F_got_rsR_0 P608]
  · isplitl [F_got_rsR_0] <;> iassumption
  ihave F_got_rsR_0 := (bigSepL_snoc (fun k : Fin 32 => gotRsR m c 0 k) [0, 1, 2, 3, 4, 5, 6, 7, 8, 9, 10, 11] 12 [0, 1, 2, 3, 4, 5, 6, 7, 8, 9, 10, 11, 12] rfl) $$ [F_got_rsR_0 P609]
  · isplitl [F_got_rsR_0] <;> iassumption
  ihave F_got_rsR_0 := (bigSepL_snoc (fun k : Fin 32 => gotRsR m c 0 k) [0, 1, 2, 3, 4, 5, 6, 7, 8, 9, 10, 11, 12] 13 [0, 1, 2, 3, 4, 5, 6, 7, 8, 9, 10, 11, 12, 13] rfl) $$ [F_got_rsR_0 P610]
  · isplitl [F_got_rsR_0] <;> iassumption
  ihave F_got_rsR_0 := (bigSepL_snoc (fun k : Fin 32 => gotRsR m c 0 k) [0, 1, 2, 3, 4, 5, 6, 7, 8, 9, 10, 11, 12, 13] 14 [0, 1, 2, 3, 4, 5, 6, 7, 8, 9, 10, 11, 12, 13, 14] rfl) $$ [F_got_rsR_0 P611]
  · isplitl [F_got_rsR_0] <;> iassumption
  ihave F_got_rsR_0 := (bigSepL_snoc (fun k : Fin 32 => gotRsR m c 0 k) [0, 1, 2, 3, 4, 5, 6, 7, 8, 9, 10, 11, 12, 13, 14] 15 [0, 1, 2, 3, 4, 5, 6, 7, 8, 9, 10, 11, 12, 13, 14, 15] rfl) $$ [F_got_rsR_0 P612]
  · isplitl [F_got_rsR_0] <;> iassumption
  ihave F_got_rsR_0 := (bigSepL_snoc (fun k : Fin 32 => gotRsR m c 0 k) [0, 1, 2, 3, 4, 5, 6, 7, 8, 9, 10, 11, 12, 13, 14, 15] 16 [0, 1, 2, 3, 4, 5, 6, 7, 8, 9, 10, 11, 12, 13, 14, 15, 16] rfl) $$ [F_got_rsR_0 P613]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16] 17 [0, 1, 2, 3, 4, 5, 6, 7, 8, 9, 10, 11, 12, 13, 14, 15, 16, 17] rfl) $$ [F_got_rsR_0 P614]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17] 18 [0, 1, 2, 3, 4, 5, 6, 7, 8, 9, 10, 11, 12, 13, 14, 15, 16, 17, 18] rfl) $$ [F_got_rsR_0 P615]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18] 19 [0, 1, 2, 3, 4, 5, 6, 7, 8, 9, 10, 11, 12, 13, 14, 15, 16, 17, 18, 19] rfl) $$ [F_got_rsR_0 P616]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19] 20 [0, 1, 2, 3, 4, 5, 6, 7, 8, 9, 10, 11, 12, 13, 14, 15, 16, 17, 18, 19, 20] rfl) $$ [F_got_rsR_0 P617]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20] 21 [0, 1, 2, 3, 4, 5, 6, 7, 8, 9, 10, 11, 12, 13, 14, 15, 16, 17, 18, 19, 20, 21] rfl) $$ [F_got_rsR_0 P618]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21] 22 [0, 1, 2, 3, 4, 5, 6, 7, 8, 9, 10, 11, 12, 13, 14, 15, 16, 17, 18, 19, 20, 21, 22] rfl) $$ [F_got_rsR_0 P619]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22] 23 [0, 1, 2, 3, 4, 5, 6, 7, 8, 9, 10, 11, 12, 13, 14, 15, 16, 17, 18, 19, 20, 21, 22, 23] rfl) $$ [F_got_rsR_0 P620]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23] 24 [0, 1, 2, 3, 4, 5, 6, 7, 8, 9, 10, 11, 12, 13, 14, 15, 16, 17, 18, 19, 20, 21, 22, 23, 24] rfl) $$ [F_got_rsR_0 P621]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24] 25 [0, 1, 2, 3, 4, 5, 6, 7, 8, 9, 10, 11, 12, 13, 14, 15, 16, 17, 18, 19, 20, 21, 22, 23, 24, 25] rfl) $$ [F_got_rsR_0 P622]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25] 26 [0, 1, 2, 3, 4, 5, 6, 7, 8, 9, 10, 11, 12, 13, 14, 15, 16, 17, 18, 19, 20, 21, 22, 23, 24, 25, 26] rfl) $$ [F_got_rsR_0 P623]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26] 27 [0, 1, 2, 3, 4, 5, 6, 7, 8, 9, 10, 11, 12, 13, 14, 15, 16, 17, 18, 19, 20, 21, 22, 23, 24, 25, 26, 27] rfl) $$ [F_got_rsR_0 P624]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26, 27] 28 [0, 1, 2, 3, 4, 5, 6, 7, 8, 9, 10, 11, 12, 13, 14, 15, 16, 17, 18, 19, 20, 21, 22, 23, 24, 25, 26, 27, 28] rfl) $$ [F_got_rsR_0 P625]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26, 27, 28] 29 [0, 1, 2, 3, 4, 5, 6, 7, 8, 9, 10, 11, 12, 13, 14, 15, 16, 17, 18, 19, 20, 21, 22, 23, 24, 25, 26, 27, 28, 29] rfl) $$ [F_got_rsR_0 P626]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26, 27, 28, 29] 30 [0, 1, 2, 3, 4, 5, 6, 7, 8, 9, 10, 11, 12, 13, 14, 15, 16, 17, 18, 19, 20, 21, 22, 23, 24, 25, 26, 27, 28, 29, 30] rfl) $$ [F_got_rsR_0 P627]
  · isplitl [F_got_rsR_0] <;> iassumption
  ihave F_got_rsR_0 := (bigSepL_snoc (fun k : Fin 32 => gotRsR m c 0 k) [0, 1, 2, 3, 4, 5, 6, 7, 8, 9, 10, 11, 12, 13, 14, 15, 16, 17, 18, 19, 20, 21, 22, 23, 24, 25, 26, 27, 28, 29, 30] 31 [0, 1, 2, 3, 4, 5, 6, 7, 8, 9, 10, 11, 12, 13, 14, 15, 16, 17, 18, 19, 20, 21, 22, 23, 24, 25, 26, 27, 28, 29, 30, 31] rfl) $$ [F_got_rsR_0 P628]
  · isplitl [F_got_rsR_0] <;> iassumption
  ihave F_closed_rsR_0 := (bigSepL_snoc (fun k : Fin 32 => closedAt m K c 0 k rsR) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_closed_rsR_0 P629]
  · isplitl [F_closed_rsR_0] <;> iassumption
  ihave F_outShare0_0 := (bigSepL_wrap (fun k : Fin 32 => outShareAt m c 0 k) 0) $$ P630
  ihave F_outShare_0 := (bigSepL_wrap (fun k : Fin 32 => outShareAt m c 0 k) 1) $$ P631
  ihave F_outShare_0 := (bigSepL_snoc (fun k : Fin 32 => outShareAt m c 0 k) [1] 2 [1, 2] rfl) $$ [F_outShare_0 P632]
  · isplitl [F_outShare_0] <;> iassumption
  ihave F_outShare_0 := (bigSepL_snoc (fun k : Fin 32 => outShareAt m c 0 k) [1, 2] 3 [1, 2, 3] rfl) $$ [F_outShare_0 P633]
  · isplitl [F_outShare_0] <;> iassumption
  ihave F_outShare_0 := (bigSepL_snoc (fun k : Fin 32 => outShareAt m c 0 k) [1, 2, 3] 4 [1, 2, 3, 4] rfl) $$ [F_outShare_0 P634]
  · isplitl [F_outShare_0] <;> iassumption
  ihave F_outShare_0 := (bigSepL_snoc (fun k : Fin 32 => outShareAt m c 0 k) [1, 2, 3, 4] 5 [1, 2, 3, 4, 5] rfl) $$ [F_outShare_0 P635]
  · isplitl [F_outShare_0] <;> iassumption
  ihave F_outShare_0 := (bigSepL_snoc (fun k : Fin 32 => outShareAt m c 0 k) [1, 2, 3, 4, 5] 6 [1, 2, 3, 4, 5, 6] rfl) $$ [F_outShare_0 P636]
  · isplitl [F_outShare_0] <;> iassumption
  ihave F_outShare_0 := (bigSepL_snoc (fun k : Fin 32 => outShareAt m c 0 k) [1, 2, 3, 4, 5, 6] 7 [1, 2, 3, 4, 5, 6, 7] rfl) $$ [F_outShare_0 P637]
  · isplitl [F_outShare_0] <;> iassumption
  ihave F_outShare_0 := (bigSepL_snoc (fun k : Fin 32 => outShareAt m c 0 k) [1, 2, 3, 4, 5, 6, 7] 8 [1, 2, 3, 4, 5, 6, 7, 8] rfl) $$ [F_outShare_0 P638]
  · isplitl [F_outShare_0] <;> iassumption
  ihave F_outShare_0 := (bigSepL_snoc (fun k : Fin 32 => outShareAt m c 0 k) [1, 2, 3, 4, 5, 6, 7, 8] 9 [1, 2, 3, 4, 5, 6, 7, 8, 9] rfl) $$ [F_outShare_0 P639]
  · isplitl [F_outShare_0] <;> iassumption
  ihave F_outShare_0 := (bigSepL_snoc (fun k : Fin 32 => outShareAt m c 0 k) [1, 2, 3, 4, 5, 6, 7, 8, 9] 10 [1, 2, 3, 4, 5, 6, 7, 8, 9, 10] rfl) $$ [F_outShare_0 P640]
  · isplitl [F_outShare_0] <;> iassumption
  ihave F_outShare_0 := (bigSepL_snoc (fun k : Fin 32 => outShareAt m c 0 k) [1, 2, 3, 4, 5, 6, 7, 8, 9, 10] 11 [1, 2, 3, 4, 5, 6, 7, 8, 9, 10, 11] rfl) $$ [F_outShare_0 P641]
  · isplitl [F_outShare_0] <;> iassumption
  ihave F_outShare_0 := (bigSepL_snoc (fun k : Fin 32 => outShareAt m c 0 k) [1, 2, 3, 4, 5, 6, 7, 8, 9, 10, 11] 12 [1, 2, 3, 4, 5, 6, 7, 8, 9, 10, 11, 12] rfl) $$ [F_outShare_0 P642]
  · isplitl [F_outShare_0] <;> iassumption
  ihave F_outShare_0 := (bigSepL_snoc (fun k : Fin 32 => outShareAt m c 0 k) [1, 2, 3, 4, 5, 6, 7, 8, 9, 10, 11, 12] 13 [1, 2, 3, 4, 5, 6, 7, 8, 9, 10, 11, 12, 13] rfl) $$ [F_outShare_0 P643]
  · isplitl [F_outShare_0] <;> iassumption
  ihave F_outShare_0 := (bigSepL_snoc (fun k : Fin 32 => outShareAt m c 0 k) [1, 2, 3, 4, 5, 6, 7, 8, 9, 10, 11, 12, 13] 14 [1, 2, 3, 4, 5, 6, 7, 8, 9, 10, 11, 12, 13, 14] rfl) $$ [F_outShare_0 P644]
  · isplitl [F_outShare_0] <;> iassumption
  ihave F_outShare_0 := (bigSepL_snoc (fun k : Fin 32 => outShareAt m c 0 k) [1, 2, 3, 4, 5, 6, 7, 8, 9, 10, 11, 12, 13, 14] 15 [1, 2, 3, 4, 5, 6, 7, 8, 9, 10, 11, 12, 13, 14, 15] rfl) $$ [F_outShare_0 P645]
  · isplitl [F_outShare_0] <;> iassumption
  ihave F_outShare_0 := (bigSepL_snoc (fun k : Fin 32 => outShareAt m c 0 k) [1, 2, 3, 4, 5, 6, 7, 8, 9, 10, 11, 12, 13, 14, 15] 16 [1, 2, 3, 4, 5, 6, 7, 8, 9, 10, 11, 12, 13, 14, 15, 16] rfl) $$ [F_outShare_0 P646]
  · isplitl [F_outShare_0] <;> iassumption
  ihave F_outShare_0 := (bigSepL_snoc (fun k : Fin 32 => outShareAt m c 0 k) [1, 2, 3, 4, 5, 6, 7, 8, 9, 10, 11, 12, 13, 14, 15, 16] 17 [1, 2, 3, 4, 5, 6, 7, 8, 9, 10, 11, 12, 13, 14, 15, 16, 17] rfl) $$ [F_outShare_0 P647]
  · isplitl [F_outShare_0] <;> iassumption
  ihave F_outShare_0 := (bigSepL_snoc (fun k : Fin 32 => outShareAt m c 0 k) [1, 2, 3, 4, 5, 6, 7, 8, 9, 10, 11, 12, 13, 14, 15, 16, 17] 18 [1, 2, 3, 4, 5, 6, 7, 8, 9, 10, 11, 12, 13, 14, 15, 16, 17, 18] rfl) $$ [F_outShare_0 P648]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_outShare_0 P649]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_outShare_0 P650]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_outShare_0 P651]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_outShare_0 P652]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_outShare_0 P653]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_outShare_0 P654]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_outShare_0 P655]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_outShare_0 P656]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_outShare_0 P657]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_outShare_0 P658]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_outShare_0 P659]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_outShare_0 P660]
  · isplitl [F_outShare_0] <;> iassumption
  ihave F_outShare_0 := (bigSepL_snoc (fun k : Fin 32 => outShareAt m c 0 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_outShare_0 P661]
  · isplitl [F_outShare_0] <;> iassumption
  -- k0_part51
  icases (bigSepL_pop (fun k : Fin 32 => copyRes m K agS agR c 0 k) 1 2 [3, 4, 5, 6, 7, 8, 9, 10, 11, 12, 13, 14, 15, 16, 17, 18, 19, 20, 21, 22, 23, 24, 25, 26, 27, 28, 29, 30, 31]) $$ F_copyRes_agS_0 with ⟨T662, F_copyRes_agS_0⟩
  icases (bigSepL_pop (fun k : Fin 32 => outShareAt m c 0 k) 1 2 [3, 4, 5, 6, 7, 8, 9, 10, 11, 12, 13, 14, 15, 16, 17, 18, 19, 20, 21, 22, 23, 24, 25, 26, 27, 28, 29, 30, 31]) $$ F_outShare_0 with ⟨T663, F_outShare_0⟩
  icases (bigSepL_pop (fun k : Fin 32 => peerOutAt c 0 k) 1 2 [3, 4, 5, 6, 7, 8, 9, 10, 11, 12, 13, 14, 15, 16, 17, 18, 19, 20, 21, 22, 23, 24, 25, 26, 27, 28, 29, 30, 31]) $$ F_peerOut_0 with ⟨T664, F_peerOut_0⟩
  icases (bigSepL_pop (fun k : Fin 32 => copyRes m K agS agR c 0 k) 2 3 [4, 5, 6, 7, 8, 9, 10, 11, 12, 13, 14, 15, 16, 17, 18, 19, 20, 21, 22, 23, 24, 25, 26, 27, 28, 29, 30, 31]) $$ F_copyRes_agS_0 with ⟨T665, F_copyRes_agS_0⟩
  icases (bigSepL_pop (fun k : Fin 32 => outShareAt m c 0 k) 2 3 [4, 5, 6, 7, 8, 9, 10, 11, 12, 13, 14, 15, 16, 17, 18, 19, 20, 21, 22, 23, 24, 25, 26, 27, 28, 29, 30, 31]) $$ F_outShare_0 with ⟨T666, F_outShare_0⟩
  icases (bigSepL_pop (fun k : Fin 32 => peerOutAt c 0 k) 2 3 [4, 5, 6, 7, 8, 9, 10, 11, 12, 13, 14, 15, 16, 17, 18, 19, 20, 21, 22, 23, 24, 25, 26, 27, 28, 29, 30, 31]) $$ F_peerOut_0 with ⟨T667, F_peerOut_0⟩
  icases (bigSepL_pop (fun k : Fin 32 => copyRes m K agS agR c 0 k) 3 4 [5, 6, 7, 8, 9, 10, 11, 12, 13, 14, 15, 16, 17, 18, 19, 20, 21, 22, 23, 24, 25, 26, 27, 28, 29, 30, 31]) $$ F_copyRes_agS_0 with ⟨T668, F_copyRes_agS_0⟩
  icases (bigSepL_pop (fun k : Fin 32 => outShareAt m c 0 k) 3 4 [5, 6, 7, 8, 9, 10, 11, 12, 13, 14, 15, 16, 17, 18, 19, 20, 21, 22, 23, 24, 25, 26, 27, 28, 29, 30, 31]) $$ F_outShare_0 with ⟨T669, F_outShare_0⟩
  icases (bigSepL_pop (fun k : Fin 32 => peerOutAt c 0 k) 3 4 [5, 6, 7, 8, 9, 10, 11, 12, 13, 14, 15, 16, 17, 18, 19, 20, 21, 22, 23, 24, 25, 26, 27, 28, 29, 30, 31]) $$ F_peerOut_0 with ⟨T670, F_peerOut_0⟩
  rw [owed_step_93 c, owed_step_94 c, owed_step_95 c]
  rw [wp_bind]
  iapply (part51_spec' m K c _ (owedAfter c 96) (insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))
  isplitl [T662]
  · iexact T662
  isplitl [T663]
  · iexact T663
  isplitl [T664]
  · iexact T664
  isplitl [T665]
  · iexact T665
  isplitl [T666]
  · iexact T666
  isplitl [T667]
  · iexact T667
  isplitl [T668]
  · iexact T668
  isplitl [T669]
  · iexact T669
  isplitl [T670]
  · iexact T670
  isplitl [H_owes]
  · iexact H_owes
  iintro %c4_i32_1584 ⟨P671, P672, P673, H_owes⟩
  try dsimp only
  ihave F_recvRes_agS_0 := (bigSepL_wrap (fun k : Fin 32 => recvRes m K agS c 0 k) 1) $$ P671
  ihave F_recvRes_agS_0 := (bigSepL_snoc (fun k : Fin 32 => recvRes m K agS c 0 k) [1] 2 [1, 2] rfl) $$ [F_recvRes_agS_0 P672]
  · isplitl [F_recvRes_agS_0] <;> iassumption
  ihave F_recvRes_agS_0 := (bigSepL_snoc (fun k : Fin 32 => recvRes m K agS c 0 k) [1, 2] 3 [1, 2, 3] rfl) $$ [F_recvRes_agS_0 P673]
  · isplitl [F_recvRes_agS_0] <;> iassumption
  -- k0_part52
  icases (bigSepL_pop (fun k : Fin 32 => copyRes m K agS agR c 0 k) 4 5 [6, 7, 8, 9, 10, 11, 12, 13, 14, 15, 16, 17, 18, 19, 20, 21, 22, 23, 24, 25, 26, 27, 28, 29, 30, 31]) $$ F_copyRes_agS_0 with ⟨T674, F_copyRes_agS_0⟩
  icases (bigSepL_pop (fun k : Fin 32 => outShareAt m c 0 k) 4 5 [6, 7, 8, 9, 10, 11, 12, 13, 14, 15, 16, 17, 18, 19, 20, 21, 22, 23, 24, 25, 26, 27, 28, 29, 30, 31]) $$ F_outShare_0 with ⟨T675, F_outShare_0⟩
  icases (bigSepL_pop (fun k : Fin 32 => peerOutAt c 0 k) 4 5 [6, 7, 8, 9, 10, 11, 12, 13, 14, 15, 16, 17, 18, 19, 20, 21, 22, 23, 24, 25, 26, 27, 28, 29, 30, 31]) $$ F_peerOut_0 with ⟨T676, F_peerOut_0⟩
  icases (bigSepL_pop (fun k : Fin 32 => copyRes m K agS agR c 0 k) 5 6 [7, 8, 9, 10, 11, 12, 13, 14, 15, 16, 17, 18, 19, 20, 21, 22, 23, 24, 25, 26, 27, 28, 29, 30, 31]) $$ F_copyRes_agS_0 with ⟨T677, F_copyRes_agS_0⟩
  icases (bigSepL_pop (fun k : Fin 32 => outShareAt m c 0 k) 5 6 [7, 8, 9, 10, 11, 12, 13, 14, 15, 16, 17, 18, 19, 20, 21, 22, 23, 24, 25, 26, 27, 28, 29, 30, 31]) $$ F_outShare_0 with ⟨T678, F_outShare_0⟩
  icases (bigSepL_pop (fun k : Fin 32 => peerOutAt c 0 k) 5 6 [7, 8, 9, 10, 11, 12, 13, 14, 15, 16, 17, 18, 19, 20, 21, 22, 23, 24, 25, 26, 27, 28, 29, 30, 31]) $$ F_peerOut_0 with ⟨T679, F_peerOut_0⟩
  rw [owed_step_96 c, owed_step_97 c]
  rw [wp_bind]
  iapply (part52_spec' m K c _ _ (owedAfter c 98) ((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))
  isplitl [T674]
  · iexact T674
  isplitl [T675]
  · iexact T675
  isplitl [T676]
  · iexact T676
  isplitl [T677]
  · iexact T677
  isplitl [T678]
  · iexact T678
  isplitl [T679]
  · iexact T679
  isplitl [H_owes]
  · iexact H_owes
  iintro %v1327 ⟨P680, P681, H_owes⟩
  try dsimp only
  ihave F_recvRes_agS_0 := (bigSepL_snoc (fun k : Fin 32 => recvRes m K agS c 0 k) [1, 2, 3] 4 [1, 2, 3, 4] rfl) $$ [F_recvRes_agS_0 P680]
  · isplitl [F_recvRes_agS_0] <;> iassumption
  ihave F_recvRes_agS_0 := (bigSepL_snoc (fun k : Fin 32 => recvRes m K agS c 0 k) [1, 2, 3, 4] 5 [1, 2, 3, 4, 5] rfl) $$ [F_recvRes_agS_0 P681]
  · isplitl [F_recvRes_agS_0] <;> iassumption
  -- k0_part53
  icases (bigSepL_pop (fun k : Fin 32 => copyRes m K agS agR c 0 k) 6 7 [8, 9, 10, 11, 12, 13, 14, 15, 16, 17, 18, 19, 20, 21, 22, 23, 24, 25, 26, 27, 28, 29, 30, 31]) $$ F_copyRes_agS_0 with ⟨T682, F_copyRes_agS_0⟩
  icases (bigSepL_pop (fun k : Fin 32 => outShareAt m c 0 k) 6 7 [8, 9, 10, 11, 12, 13, 14, 15, 16, 17, 18, 19, 20, 21, 22, 23, 24, 25, 26, 27, 28, 29, 30, 31]) $$ F_outShare_0 with ⟨T683, F_outShare_0⟩
  icases (bigSepL_pop (fun k : Fin 32 => peerOutAt c 0 k) 6 7 [8, 9, 10, 11, 12, 13, 14, 15, 16, 17, 18, 19, 20, 21, 22, 23, 24, 25, 26, 27, 28, 29, 30, 31]) $$ F_peerOut_0 with ⟨T684, F_peerOut_0⟩
  icases (bigSepL_pop (fun k : Fin 32 => copyRes m K agS agR c 0 k) 7 8 [9, 10, 11, 12, 13, 14, 15, 16, 17, 18, 19, 20, 21, 22, 23, 24, 25, 26, 27, 28, 29, 30, 31]) $$ F_copyRes_agS_0 with ⟨T685, F_copyRes_agS_0⟩
  icases (bigSepL_pop (fun k : Fin 32 => outShareAt m c 0 k) 7 8 [9, 10, 11, 12, 13, 14, 15, 16, 17, 18, 19, 20, 21, 22, 23, 24, 25, 26, 27, 28, 29, 30, 31]) $$ F_outShare_0 with ⟨T686, F_outShare_0⟩
  icases (bigSepL_pop (fun k : Fin 32 => peerOutAt c 0 k) 7 8 [9, 10, 11, 12, 13, 14, 15, 16, 17, 18, 19, 20, 21, 22, 23, 24, 25, 26, 27, 28, 29, 30, 31]) $$ F_peerOut_0 with ⟨T687, F_peerOut_0⟩
  rw [owed_step_98 c, owed_step_99 c]
  rw [wp_bind]
  iapply (part53_spec' m K c _ _ (owedAfter c 100) (((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))
  isplitl [T682]
  · iexact T682
  isplitl [T683]
  · iexact T683
  isplitl [T684]
  · iexact T684
  isplitl [T685]
  · iexact T685
  isplitl [T686]
  · iexact T686
  isplitl [T687]
  · iexact T687
  isplitl [H_owes]
  · iexact H_owes
  iintro %r ⟨P688, P689, H_owes⟩
  try dsimp only
  ihave F_recvRes_agS_0 := (bigSepL_snoc (fun k : Fin 32 => recvRes m K agS c 0 k) [1, 2, 3, 4, 5] 6 [1, 2, 3, 4, 5, 6] rfl) $$ [F_recvRes_agS_0 P688]
  · isplitl [F_recvRes_agS_0] <;> iassumption
  ihave F_recvRes_agS_0 := (bigSepL_snoc (fun k : Fin 32 => recvRes m K agS c 0 k) [1, 2, 3, 4, 5, 6] 7 [1, 2, 3, 4, 5, 6, 7] rfl) $$ [F_recvRes_agS_0 P689]
  · isplitl [F_recvRes_agS_0] <;> iassumption
  -- k0_part54
  icases (bigSepL_pop (fun k : Fin 32 => copyRes m K agS agR c 0 k) 8 9 [10, 11, 12, 13, 14, 15, 16, 17, 18, 19, 20, 21, 22, 23, 24, 25, 26, 27, 28, 29, 30, 31]) $$ F_copyRes_agS_0 with ⟨T690, F_copyRes_agS_0⟩
  icases (bigSepL_pop (fun k : Fin 32 => outShareAt m c 0 k) 8 9 [10, 11, 12, 13, 14, 15, 16, 17, 18, 19, 20, 21, 22, 23, 24, 25, 26, 27, 28, 29, 30, 31]) $$ F_outShare_0 with ⟨T691, F_outShare_0⟩
  icases (bigSepL_pop (fun k : Fin 32 => peerOutAt c 0 k) 8 9 [10, 11, 12, 13, 14, 15, 16, 17, 18, 19, 20, 21, 22, 23, 24, 25, 26, 27, 28, 29, 30, 31]) $$ F_peerOut_0 with ⟨T692, F_peerOut_0⟩
  icases (bigSepL_pop (fun k : Fin 32 => copyRes m K agS agR c 0 k) 9 10 [11, 12, 13, 14, 15, 16, 17, 18, 19, 20, 21, 22, 23, 24, 25, 26, 27, 28, 29, 30, 31]) $$ F_copyRes_agS_0 with ⟨T693, F_copyRes_agS_0⟩
  icases (bigSepL_pop (fun k : Fin 32 => outShareAt m c 0 k) 9 10 [11, 12, 13, 14, 15, 16, 17, 18, 19, 20, 21, 22, 23, 24, 25, 26, 27, 28, 29, 30, 31]) $$ F_outShare_0 with ⟨T694, F_outShare_0⟩
  icases (bigSepL_pop (fun k : Fin 32 => peerOutAt c 0 k) 9 10 [11, 12, 13, 14, 15, 16, 17, 18, 19, 20, 21, 22, 23, 24, 25, 26, 27, 28, 29, 30, 31]) $$ F_peerOut_0 with ⟨T695, F_peerOut_0⟩
  icases (bigSepL_pop (fun k : Fin 32 => copyRes m K agS agR c 0 k) 10 11 [12, 13, 14, 15, 16, 17, 18, 19, 20, 21, 22, 23, 24, 25, 26, 27, 28, 29, 30, 31]) $$ F_copyRes_agS_0 with ⟨T696, F_copyRes_agS_0⟩
  icases (bigSepL_pop (fun k : Fin 32 => outShareAt m c 0 k) 10 11 [12, 13, 14, 15, 16, 17, 18, 19, 20, 21, 22, 23, 24, 25, 26, 27, 28, 29, 30, 31]) $$ F_outShare_0 with ⟨T697, F_outShare_0⟩
  icases (bigSepL_pop (fun k : Fin 32 => peerOutAt c 0 k) 10 11 [12, 13, 14, 15, 16, 17, 18, 19, 20, 21, 22, 23, 24, 25, 26, 27, 28, 29, 30, 31]) $$ F_peerOut_0 with ⟨T698, F_peerOut_0⟩
  rw [owed_step_100 c, owed_step_101 c, owed_step_102 c]
  rw [wp_bind]
  iapply (part54_spec' m K c _ (owedAfter c 103) ((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))
  isplitl [T690]
  · iexact T690
  isplitl [T691]
  · iexact T691
  isplitl [T692]
  · iexact T692
  isplitl [T693]
  · iexact T693
  isplitl [T694]
  · iexact T694
  isplitl [T695]
  · iexact T695
  isplitl [T696]
  · iexact T696
  isplitl [T697]
  · iexact T697
  isplitl [T698]
  · iexact T698
  isplitl [H_owes]
  · iexact H_owes
  iintro %v1387 ⟨P699, P700, P701, H_owes⟩
  try dsimp only
  ihave F_recvRes_agS_0 := (bigSepL_snoc (fun k : Fin 32 => recvRes m K agS c 0 k) [1, 2, 3, 4, 5, 6, 7] 8 [1, 2, 3, 4, 5, 6, 7, 8] rfl) $$ [F_recvRes_agS_0 P699]
  · isplitl [F_recvRes_agS_0] <;> iassumption
  ihave F_recvRes_agS_0 := (bigSepL_snoc (fun k : Fin 32 => recvRes m K agS c 0 k) [1, 2, 3, 4, 5, 6, 7, 8] 9 [1, 2, 3, 4, 5, 6, 7, 8, 9] rfl) $$ [F_recvRes_agS_0 P700]
  · isplitl [F_recvRes_agS_0] <;> iassumption
  ihave F_recvRes_agS_0 := (bigSepL_snoc (fun k : Fin 32 => recvRes m K agS c 0 k) [1, 2, 3, 4, 5, 6, 7, 8, 9] 10 [1, 2, 3, 4, 5, 6, 7, 8, 9, 10] rfl) $$ [F_recvRes_agS_0 P701]
  · isplitl [F_recvRes_agS_0] <;> iassumption
  -- k0_part55
  icases (bigSepL_pop (fun k : Fin 32 => copyRes m K agS agR c 0 k) 11 12 [13, 14, 15, 16, 17, 18, 19, 20, 21, 22, 23, 24, 25, 26, 27, 28, 29, 30, 31]) $$ F_copyRes_agS_0 with ⟨T702, F_copyRes_agS_0⟩
  icases (bigSepL_pop (fun k : Fin 32 => outShareAt m c 0 k) 11 12 [13, 14, 15, 16, 17, 18, 19, 20, 21, 22, 23, 24, 25, 26, 27, 28, 29, 30, 31]) $$ F_outShare_0 with ⟨T703, F_outShare_0⟩
  icases (bigSepL_pop (fun k : Fin 32 => peerOutAt c 0 k) 11 12 [13, 14, 15, 16, 17, 18, 19, 20, 21, 22, 23, 24, 25, 26, 27, 28, 29, 30, 31]) $$ F_peerOut_0 with ⟨T704, F_peerOut_0⟩
  icases (bigSepL_pop (fun k : Fin 32 => copyRes m K agS agR c 0 k) 12 13 [14, 15, 16, 17, 18, 19, 20, 21, 22, 23, 24, 25, 26, 27, 28, 29, 30, 31]) $$ F_copyRes_agS_0 with ⟨T705, F_copyRes_agS_0⟩
  icases (bigSepL_pop (fun k : Fin 32 => outShareAt m c 0 k) 12 13 [14, 15, 16, 17, 18, 19, 20, 21, 22, 23, 24, 25, 26, 27, 28, 29, 30, 31]) $$ F_outShare_0 with ⟨T706, F_outShare_0⟩
  icases (bigSepL_pop (fun k : Fin 32 => peerOutAt c 0 k) 12 13 [14, 15, 16, 17, 18, 19, 20, 21, 22, 23, 24, 25, 26, 27, 28, 29, 30, 31]) $$ F_peerOut_0 with ⟨T707, F_peerOut_0⟩
  rw [owed_step_103 c, owed_step_104 c]
  rw [wp_bind]
  iapply (part55_spec' m K c _ _ (owedAfter c 105) (((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))
  isplitl [T702]
  · iexact T702
  isplitl [T703]
  · iexact T703
  isplitl [T704]
  · iexact T704
  isplitl [T705]
  · iexact T705
  isplitl [T706]
  · iexact T706
  isplitl [T707]
  · iexact T707
  isplitl [H_owes]
  · iexact H_owes
  iintro %r ⟨P708, P709, H_owes⟩
  try dsimp only
  ihave F_recvRes_agS_0 := (bigSepL_snoc (fun k : Fin 32 => recvRes m K agS c 0 k) [1, 2, 3, 4, 5, 6, 7, 8, 9, 10] 11 [1, 2, 3, 4, 5, 6, 7, 8, 9, 10, 11] rfl) $$ [F_recvRes_agS_0 P708]
  · isplitl [F_recvRes_agS_0] <;> iassumption
  ihave F_recvRes_agS_0 := (bigSepL_snoc (fun k : Fin 32 => recvRes m K agS c 0 k) [1, 2, 3, 4, 5, 6, 7, 8, 9, 10, 11] 12 [1, 2, 3, 4, 5, 6, 7, 8, 9, 10, 11, 12] rfl) $$ [F_recvRes_agS_0 P709]
  · isplitl [F_recvRes_agS_0] <;> iassumption
  -- k0_part56
  icases (bigSepL_pop (fun k : Fin 32 => copyRes m K agS agR c 0 k) 13 14 [15, 16, 17, 18, 19, 20, 21, 22, 23, 24, 25, 26, 27, 28, 29, 30, 31]) $$ F_copyRes_agS_0 with ⟨T710, F_copyRes_agS_0⟩
  icases (bigSepL_pop (fun k : Fin 32 => outShareAt m c 0 k) 13 14 [15, 16, 17, 18, 19, 20, 21, 22, 23, 24, 25, 26, 27, 28, 29, 30, 31]) $$ F_outShare_0 with ⟨T711, F_outShare_0⟩
  icases (bigSepL_pop (fun k : Fin 32 => peerOutAt c 0 k) 13 14 [15, 16, 17, 18, 19, 20, 21, 22, 23, 24, 25, 26, 27, 28, 29, 30, 31]) $$ F_peerOut_0 with ⟨T712, F_peerOut_0⟩
  icases (bigSepL_pop (fun k : Fin 32 => copyRes m K agS agR c 0 k) 14 15 [16, 17, 18, 19, 20, 21, 22, 23, 24, 25, 26, 27, 28, 29, 30, 31]) $$ F_copyRes_agS_0 with ⟨T713, F_copyRes_agS_0⟩
  icases (bigSepL_pop (fun k : Fin 32 => outShareAt m c 0 k) 14 15 [16, 17, 18, 19, 20, 21, 22, 23, 24, 25, 26, 27, 28, 29, 30, 31]) $$ F_outShare_0 with ⟨T714, F_outShare_0⟩
  icases (bigSepL_pop (fun k : Fin 32 => peerOutAt c 0 k) 14 15 [16, 17, 18, 19, 20, 21, 22, 23, 24, 25, 26, 27, 28, 29, 30, 31]) $$ F_peerOut_0 with ⟨T715, F_peerOut_0⟩
  icases (bigSepL_pop (fun k : Fin 32 => copyRes m K agS agR c 0 k) 15 16 [17, 18, 19, 20, 21, 22, 23, 24, 25, 26, 27, 28, 29, 30, 31]) $$ F_copyRes_agS_0 with ⟨T716, F_copyRes_agS_0⟩
  icases (bigSepL_pop (fun k : Fin 32 => outShareAt m c 0 k) 15 16 [17, 18, 19, 20, 21, 22, 23, 24, 25, 26, 27, 28, 29, 30, 31]) $$ F_outShare_0 with ⟨T717, F_outShare_0⟩
  icases (bigSepL_pop (fun k : Fin 32 => peerOutAt c 0 k) 15 16 [17, 18, 19, 20, 21, 22, 23, 24, 25, 26, 27, 28, 29, 30, 31]) $$ F_peerOut_0 with ⟨T718, F_peerOut_0⟩
  rw [owed_step_105 c, owed_step_106 c, owed_step_107 c]
  rw [wp_bind]
  iapply (part56_spec' m K c _ (owedAfter c 108) ((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))
  isplitl [T710]
  · iexact T710
  isplitl [T711]
  · iexact T711
  isplitl [T712]
  · iexact T712
  isplitl [T713]
  · iexact T713
  isplitl [T714]
  · iexact T714
  isplitl [T715]
  · iexact T715
  isplitl [T716]
  · iexact T716
  isplitl [T717]
  · iexact T717
  isplitl [T718]
  · iexact T718
  isplitl [H_owes]
  · iexact H_owes
  iintro %c16_i32_1728 ⟨P719, P720, P721, H_owes⟩
  try dsimp only
  ihave F_recvRes_agS_0 := (bigSepL_snoc (fun k : Fin 32 => recvRes m K agS c 0 k) [1, 2, 3, 4, 5, 6, 7, 8, 9, 10, 11, 12] 13 [1, 2, 3, 4, 5, 6, 7, 8, 9, 10, 11, 12, 13] rfl) $$ [F_recvRes_agS_0 P719]
  · isplitl [F_recvRes_agS_0] <;> iassumption
  ihave F_recvRes_agS_0 := (bigSepL_snoc (fun k : Fin 32 => recvRes m K agS c 0 k) [1, 2, 3, 4, 5, 6, 7, 8, 9, 10, 11, 12, 13] 14 [1, 2, 3, 4, 5, 6, 7, 8, 9, 10, 11, 12, 13, 14] rfl) $$ [F_recvRes_agS_0 P720]
  · isplitl [F_recvRes_agS_0] <;> iassumption
  ihave F_recvRes_agS_0 := (bigSepL_snoc (fun k : Fin 32 => recvRes m K agS c 0 k) [1, 2, 3, 4, 5, 6, 7, 8, 9, 10, 11, 12, 13, 14] 15 [1, 2, 3, 4, 5, 6, 7, 8, 9, 10, 11, 12, 13, 14, 15] rfl) $$ [F_recvRes_agS_0 P721]
  · isplitl [F_recvRes_agS_0] <;> iassumption
  -- k0_part57
  icases (bigSepL_pop (fun k : Fin 32 => copyRes m K agS agR c 0 k) 16 17 [18, 19, 20, 21, 22, 23, 24, 25, 26, 27, 28, 29, 30, 31]) $$ F_copyRes_agS_0 with ⟨T722, F_copyRes_agS_0⟩
  icases (bigSepL_pop (fun k : Fin 32 => outShareAt m c 0 k) 16 17 [18, 19, 20, 21, 22, 23, 24, 25, 26, 27, 28, 29, 30, 31]) $$ F_outShare_0 with ⟨T723, F_outShare_0⟩
  icases (bigSepL_pop (fun k : Fin 32 => peerOutAt c 0 k) 16 17 [18, 19, 20, 21, 22, 23, 24, 25, 26, 27, 28, 29, 30, 31]) $$ F_peerOut_0 with ⟨T724, F_peerOut_0⟩
  icases (bigSepL_pop (fun k : Fin 32 => copyRes m K agS agR c 0 k) 17 18 [19, 20, 21, 22, 23, 24, 25, 26, 27, 28, 29, 30, 31]) $$ F_copyRes_agS_0 with ⟨T725, F_copyRes_agS_0⟩
  icases (bigSepL_pop (fun k : Fin 32 => outShareAt m c 0 k) 17 18 [19, 20, 21, 22, 23, 24, 25, 26, 27, 28, 29, 30, 31]) $$ F_outShare_0 with ⟨T726, F_outShare_0⟩
  icases (bigSepL_pop (fun k : Fin 32 => peerOutAt c 0 k) 17 18 [19, 20, 21, 22, 23, 24, 25, 26, 27, 28, 29, 30, 31]) $$ F_peerOut_0 with ⟨T727, F_peerOut_0⟩
  rw [owed_step_108 c, owed_step_109 c]
  rw [wp_bind]
  iapply (part57_spec' m K c _ _ (owedAfter c 110) (((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))
  isplitl [T722]
  · iexact T722
  isplitl [T723]
  · iexact T723
  isplitl [T724]
  · iexact T724
  isplitl [T725]
  · iexact T725
  isplitl [T726]
  · iexact T726
  isplitl [T727]
  · iexact T727
  isplitl [H_owes]
  · iexact H_owes
  iintro %v1471 ⟨P728, P729, H_owes⟩
  try dsimp only
  ihave F_recvRes_agS_0 := (bigSepL_snoc (fun k : Fin 32 => recvRes m K agS c 0 k) [1, 2, 3, 4, 5, 6, 7, 8, 9, 10, 11, 12, 13, 14, 15] 16 [1, 2, 3, 4, 5, 6, 7, 8, 9, 10, 11, 12, 13, 14, 15, 16] rfl) $$ [F_recvRes_agS_0 P728]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16] 17 [1, 2, 3, 4, 5, 6, 7, 8, 9, 10, 11, 12, 13, 14, 15, 16, 17] rfl) $$ [F_recvRes_agS_0 P729]
  · isplitl [F_recvRes_agS_0] <;> iassumption
  -- k0_part58
  icases (bigSepL_pop (fun k : Fin 32 => copyRes m K agS agR c 0 k) 18 19 [20, 21, 22, 23, 24, 25, 26, 27, 28, 29, 30, 31]) $$ F_copyRes_agS_0 with ⟨T730, F_copyRes_agS_0⟩
  icases (bigSepL_pop (fun k : Fin 32 => outShareAt m c 0 k) 18 19 [20, 21, 22, 23, 24, 25, 26, 27, 28, 29, 30, 31]) $$ F_outShare_0 with ⟨T731, F_outShare_0⟩
  icases (bigSepL_pop (fun k : Fin 32 => peerOutAt c 0 k) 18 19 [20, 21, 22, 23, 24, 25, 26, 27, 28, 29, 30, 31]) $$ F_peerOut_0 with ⟨T732, F_peerOut_0⟩
  icases (bigSepL_pop (fun k : Fin 32 => copyRes m K agS agR c 0 k) 19 20 [21, 22, 23, 24, 25, 26, 27, 28, 29, 30, 31]) $$ F_copyRes_agS_0 with ⟨T733, F_copyRes_agS_0⟩
  icases (bigSepL_pop (fun k : Fin 32 => outShareAt m c 0 k) 19 20 [21, 22, 23, 24, 25, 26, 27, 28, 29, 30, 31]) $$ F_outShare_0 with ⟨T734, F_outShare_0⟩
  icases (bigSepL_pop (fun k : Fin 32 => peerOutAt c 0 k) 19 20 [21, 22, 23, 24, 25, 26, 27, 28, 29, 30, 31]) $$ F_peerOut_0 with ⟨T735, F_peerOut_0⟩
  rw [owed_step_110 c, owed_step_111 c]
  rw [wp_bind]
  iapply (part58_spec' m K c _ _ (owedAfter c 112) ((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))
  isplitl [T730]
  · iexact T730
  isplitl [T731]
  · iexact T731
  isplitl [T732]
  · iexact T732
  isplitl [T733]
  · iexact T733
  isplitl [T734]
  · iexact T734
  isplitl [T735]
  · iexact T735
  isplitl [H_owes]
  · iexact H_owes
  iintro %r ⟨P736, P737, H_owes⟩
  try dsimp only
  ihave F_recvRes_agS_0 := (bigSepL_snoc (fun k : Fin 32 => recvRes m K agS c 0 k) [1, 2, 3, 4, 5, 6, 7, 8, 9, 10, 11, 12, 13, 14, 15, 16, 17] 18 [1, 2, 3, 4, 5, 6, 7, 8, 9, 10, 11, 12, 13, 14, 15, 16, 17, 18] rfl) $$ [F_recvRes_agS_0 P736]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_recvRes_agS_0 P737]
  · isplitl [F_recvRes_agS_0] <;> iassumption
  -- k0_part59
  icases (bigSepL_pop (fun k : Fin 32 => copyRes m K agS agR c 0 k) 20 21 [22, 23, 24, 25, 26, 27, 28, 29, 30, 31]) $$ F_copyRes_agS_0 with ⟨T738, F_copyRes_agS_0⟩
  icases (bigSepL_pop (fun k : Fin 32 => outShareAt m c 0 k) 20 21 [22, 23, 24, 25, 26, 27, 28, 29, 30, 31]) $$ F_outShare_0 with ⟨T739, F_outShare_0⟩
  icases (bigSepL_pop (fun k : Fin 32 => peerOutAt c 0 k) 20 21 [22, 23, 24, 25, 26, 27, 28, 29, 30, 31]) $$ F_peerOut_0 with ⟨T740, F_peerOut_0⟩
  icases (bigSepL_pop (fun k : Fin 32 => copyRes m K agS agR c 0 k) 21 22 [23, 24, 25, 26, 27, 28, 29, 30, 31]) $$ F_copyRes_agS_0 with ⟨T741, F_copyRes_agS_0⟩
  icases (bigSepL_pop (fun k : Fin 32 => outShareAt m c 0 k) 21 22 [23, 24, 25, 26, 27, 28, 29, 30, 31]) $$ F_outShare_0 with ⟨T742, F_outShare_0⟩
  icases (bigSepL_pop (fun k : Fin 32 => peerOutAt c 0 k) 21 22 [23, 24, 25, 26, 27, 28, 29, 30, 31]) $$ F_peerOut_0 with ⟨T743, F_peerOut_0⟩
  icases (bigSepL_pop (fun k : Fin 32 => copyRes m K agS agR c 0 k) 22 23 [24, 25, 26, 27, 28, 29, 30, 31]) $$ F_copyRes_agS_0 with ⟨T744, F_copyRes_agS_0⟩
  icases (bigSepL_pop (fun k : Fin 32 => outShareAt m c 0 k) 22 23 [24, 25, 26, 27, 28, 29, 30, 31]) $$ F_outShare_0 with ⟨T745, F_outShare_0⟩
  icases (bigSepL_pop (fun k : Fin 32 => peerOutAt c 0 k) 22 23 [24, 25, 26, 27, 28, 29, 30, 31]) $$ F_peerOut_0 with ⟨T746, F_peerOut_0⟩
  rw [owed_step_112 c, owed_step_113 c, owed_step_114 c]
  rw [wp_bind]
  iapply (part59_spec' m K c _ (owedAfter c 115) (((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))
  isplitl [T738]
  · iexact T738
  isplitl [T739]
  · iexact T739
  isplitl [T740]
  · iexact T740
  isplitl [T741]
  · iexact T741
  isplitl [T742]
  · iexact T742
  isplitl [T743]
  · iexact T743
  isplitl [T744]
  · iexact T744
  isplitl [T745]
  · iexact T745
  isplitl [T746]
  · iexact T746
  isplitl [H_owes]
  · iexact H_owes
  iintro %v1531 ⟨P747, P748, P749, H_owes⟩
  try dsimp only
  ihave F_recvRes_agS_0 := (bigSepL_snoc (fun k : Fin 32 => recvRes m K agS c 0 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_recvRes_agS_0 P747]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_recvRes_agS_0 P748]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_recvRes_agS_0 P749]
  · isplitl [F_recvRes_agS_0] <;> iassumption
  -- k0_part60
  icases (bigSepL_pop (fun k : Fin 32 => copyRes m K agS agR c 0 k) 23 24 [25, 26, 27, 28, 29, 30, 31]) $$ F_copyRes_agS_0 with ⟨T750, F_copyRes_agS_0⟩
  icases (bigSepL_pop (fun k : Fin 32 => outShareAt m c 0 k) 23 24 [25, 26, 27, 28, 29, 30, 31]) $$ F_outShare_0 with ⟨T751, F_outShare_0⟩
  icases (bigSepL_pop (fun k : Fin 32 => peerOutAt c 0 k) 23 24 [25, 26, 27, 28, 29, 30, 31]) $$ F_peerOut_0 with ⟨T752, F_peerOut_0⟩
  icases (bigSepL_pop (fun k : Fin 32 => copyRes m K agS agR c 0 k) 24 25 [26, 27, 28, 29, 30, 31]) $$ F_copyRes_agS_0 with ⟨T753, F_copyRes_agS_0⟩
  icases (bigSepL_pop (fun k : Fin 32 => outShareAt m c 0 k) 24 25 [26, 27, 28, 29, 30, 31]) $$ F_outShare_0 with ⟨T754, F_outShare_0⟩
  icases (bigSepL_pop (fun k : Fin 32 => peerOutAt c 0 k) 24 25 [26, 27, 28, 29, 30, 31]) $$ F_peerOut_0 with ⟨T755, F_peerOut_0⟩
  rw [owed_step_115 c, owed_step_116 c]
  rw [wp_bind]
  iapply (part60_spec' m K c _ _ (owedAfter c 117) ((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))
  isplitl [T750]
  · iexact T750
  isplitl [T751]
  · iexact T751
  isplitl [T752]
  · iexact T752
  isplitl [T753]
  · iexact T753
  isplitl [T754]
  · iexact T754
  isplitl [T755]
  · iexact T755
  isplitl [H_owes]
  · iexact H_owes
  iintro %r ⟨P756, P757, H_owes⟩
  try dsimp only
  ihave F_recvRes_agS_0 := (bigSepL_snoc (fun k : Fin 32 => recvRes m K agS c 0 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_recvRes_agS_0 P756]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_recvRes_agS_0 P757]
  · isplitl [F_recvRes_agS_0] <;> iassumption
  rw [wp_pure]
  imodintro
  iapply Hk
  isplitl [H_owes]
  · iexact H_owes
  isplitl [F_stgX]
  · iexact F_stgX
  isplitl [F_stgW]
  · iexact F_stgW
  isplitl [F_accSrc0_0]
  · iexact F_accSrc0_0
  isplitl [F_got_rsR_0]
  · iexact F_got_rsR_0
  isplitl [F_peerOut_0]
  · iexact F_peerOut_0
  isplitl [F_peerOut_1]
  · iexact F_peerOut_1
  isplitl [F_recvRes_rsS_0]
  · iexact F_recvRes_rsS_0
  isplitl [F_accSrc0_1]
  · iexact F_accSrc0_1
  isplitl [F_got_rsR_1]
  · iexact F_got_rsR_1
  isplitl [F_recvRes_rsS_1]
  · iexact F_recvRes_rsS_1
  isplitl [F_closed_rsR_0]
  · iexact F_closed_rsR_0
  isplitl [F_outShare0_0]
  · iexact F_outShare0_0
  isplitl [F_outShare_0]
  · iexact F_outShare_0
  isplitl [F_copyRes_agS_0]
  · iexact F_copyRes_agS_0
  iexact F_recvRes_agS_0

set_option maxRecDepth 100000 in
set_option maxHeartbeats 4000000 in
theorem part148_spec (c : Dev nD) (v2 : BitVec 32) (fo : Buf (Elt F) ((c : Thread nD τ).loc cc0_scratch1)) (W : Waits sig Unit) (Q : (Σ' (v3005 : BitVec 32), BitVec 32) → sProp 𝕄) :
    iprop(owes (c : Thread nD τ) (owedAfter c 117) W
      ∗ levAts L lv
      ∗ bigSepL ([25, 26, 27, 28, 29, 30, 31] : List (Fin 32)) (fun k : Fin 32 => copyRes m K agS agR c 0 k)
      ∗ bigSepL ([25, 26, 27, 28, 29, 30, 31] : List (Fin 32)) (fun k : Fin 32 => outShareAt m c 0 k)
      ∗ bigSepL ([25, 26, 27, 28, 29, 30, 31] : List (Fin 32)) (fun k : Fin 32 => peerOutAt c 0 k)
      ∗ bigSepL ([1, 2, 3, 4, 5, 6, 7, 8, 9, 10, 11, 12, 13, 14, 15, 16, 17, 18, 19, 20, 21, 22, 23, 24] : List (Fin 32)) (fun k : Fin 32 => recvRes m K agS c 0 k)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K rsR c 1 k)
      ∗ bigSepL ([0] : List (Fin 32)) (fun k : Fin 32 => gotRsR m c 1 k)
      ∗ bigSepL ([0] : List (Fin 32)) (fun k : Fin 32 => outAt c 1 k fo)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => copyRes m K agS agR c 1 k)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => peerOutAt c 1 k)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K rsS c 0 k)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K rsS c 1 k)
      ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K agR c 0 k)
      ∗ (∀ r, (owes (c : Thread nD τ) (owedAfter c 155) (insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))))))))))))))))))))))))))))))))))))))))))))))))))))))))))))))))) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K agS c 0 k) ∗ bigSepL ([0, 1, 2, 3, 4, 5, 6, 7, 8, 9, 10, 11, 12, 13, 14, 15, 16, 17, 18, 19, 20, 21, 22, 23, 24, 25, 26, 27, 28, 29, 30, 31] : List (Fin 32)) (fun k : Fin 32 => gotRsR m c 1 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => closedAt m K c 1 k rsR) ∗ bigSepL ([0] : List (Fin 32)) (fun k : Fin 32 => outShareAt m c 1 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => recvRes m K agS c 1 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => accSrcAt m c 0 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => closedAt m K c 0 k rsS) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => accSrcAt m c 1 k) ∗ bigSepL ([1, 2, 3, 4, 5, 6, 7, 8, 9, 10, 11, 12, 13, 14, 15, 16, 17, 18, 19, 20, 21, 22, 23, 24, 25, 26, 27, 28, 29, 30, 31] : List (Fin 32)) (fun k : Fin 32 => closedAt m K c 1 k rsS) ∗ bigSepL ([30, 31] : List (Fin 32)) (fun k : Fin 32 => recvRes m K agR c 0 k) ∗ bigSepL ([1, 2, 3, 4, 5, 6, 7, 8, 9, 10, 11, 12, 13, 14, 15, 16, 17, 18, 19, 20, 21, 22, 23, 24, 25, 26, 27, 28, 29] : List (Fin 32)) (fun k : Fin 32 => gotAgR m c 0 k) ∗ bigSepL ([1, 2, 3, 4, 5, 6, 7, 8, 9, 10, 11, 12, 13, 14, 15, 16, 17, 18, 19, 20, 21, 22, 23, 24, 25, 26, 27, 28, 29] : List (Fin 32)) (fun k : Fin 32 => closedAt m K c 0 k agR)) -∗ Q r))
      ⊢ wp frame (wpE (defs₀ (F := F)) 𝒱₀ c none) Set.univ (k0_part148 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  rw [k0_part148_eq_skeleton]; unfold k0_part148_skel
  iintro ⟨H_owes, #Hlev, F_copyRes_agS_0, F_outShare_0, F_peerOut_0, F_recvRes_agS_0, F_recvRes_rsR_1, F_got_rsR_1, F_out0_1, F_copyRes_agS_1, F_peerOut_1, F_recvRes_rsS_0, F_recvRes_rsS_1, F_recvRes_agR_0, Hk⟩
  -- k0_part61
  icases (bigSepL_pop (fun k : Fin 32 => copyRes m K agS agR c 0 k) 25 26 [27, 28, 29, 30, 31]) $$ F_copyRes_agS_0 with ⟨T1, F_copyRes_agS_0⟩
  icases (bigSepL_pop (fun k : Fin 32 => outShareAt m c 0 k) 25 26 [27, 28, 29, 30, 31]) $$ F_outShare_0 with ⟨T2, F_outShare_0⟩
  icases (bigSepL_pop (fun k : Fin 32 => peerOutAt c 0 k) 25 26 [27, 28, 29, 30, 31]) $$ F_peerOut_0 with ⟨T3, F_peerOut_0⟩
  icases (bigSepL_pop (fun k : Fin 32 => copyRes m K agS agR c 0 k) 26 27 [28, 29, 30, 31]) $$ F_copyRes_agS_0 with ⟨T4, F_copyRes_agS_0⟩
  icases (bigSepL_pop (fun k : Fin 32 => outShareAt m c 0 k) 26 27 [28, 29, 30, 31]) $$ F_outShare_0 with ⟨T5, F_outShare_0⟩
  icases (bigSepL_pop (fun k : Fin 32 => peerOutAt c 0 k) 26 27 [28, 29, 30, 31]) $$ F_peerOut_0 with ⟨T6, F_peerOut_0⟩
  icases (bigSepL_pop (fun k : Fin 32 => copyRes m K agS agR c 0 k) 27 28 [29, 30, 31]) $$ F_copyRes_agS_0 with ⟨T7, F_copyRes_agS_0⟩
  icases (bigSepL_pop (fun k : Fin 32 => outShareAt m c 0 k) 27 28 [29, 30, 31]) $$ F_outShare_0 with ⟨T8, F_outShare_0⟩
  icases (bigSepL_pop (fun k : Fin 32 => peerOutAt c 0 k) 27 28 [29, 30, 31]) $$ F_peerOut_0 with ⟨T9, F_peerOut_0⟩
  rw [owed_step_117 c, owed_step_118 c, owed_step_119 c]
  rw [wp_bind]
  iapply (part61_spec' m K c _ (owedAfter c 120) (W))
  isplitl [T1]
  · iexact T1
  isplitl [T2]
  · iexact T2
  isplitl [T3]
  · iexact T3
  isplitl [T4]
  · iexact T4
  isplitl [T5]
  · iexact T5
  isplitl [T6]
  · iexact T6
  isplitl [T7]
  · iexact T7
  isplitl [T8]
  · iexact T8
  isplitl [T9]
  · iexact T9
  isplitl [H_owes]
  · iexact H_owes
  iintro %c28_i32_1872 ⟨P10, P11, P12, H_owes⟩
  try dsimp only
  ihave F_recvRes_agS_0 := (bigSepL_snoc (fun k : Fin 32 => recvRes m K agS c 0 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_recvRes_agS_0 P10]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_recvRes_agS_0 P11]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_recvRes_agS_0 P12]
  · isplitl [F_recvRes_agS_0] <;> iassumption
  -- k0_part62
  icases (bigSepL_pop (fun k : Fin 32 => copyRes m K agS agR c 0 k) 28 29 [30, 31]) $$ F_copyRes_agS_0 with ⟨T13, F_copyRes_agS_0⟩
  icases (bigSepL_pop (fun k : Fin 32 => outShareAt m c 0 k) 28 29 [30, 31]) $$ F_outShare_0 with ⟨T14, F_outShare_0⟩
  icases (bigSepL_pop (fun k : Fin 32 => peerOutAt c 0 k) 28 29 [30, 31]) $$ F_peerOut_0 with ⟨T15, F_peerOut_0⟩
  icases (bigSepL_pop (fun k : Fin 32 => copyRes m K agS agR c 0 k) 29 30 [31]) $$ F_copyRes_agS_0 with ⟨T16, F_copyRes_agS_0⟩
  icases (bigSepL_pop (fun k : Fin 32 => outShareAt m c 0 k) 29 30 [31]) $$ F_outShare_0 with ⟨T17, F_outShare_0⟩
  icases (bigSepL_pop (fun k : Fin 32 => peerOutAt c 0 k) 29 30 [31]) $$ F_peerOut_0 with ⟨T18, F_peerOut_0⟩
  rw [owed_step_120 c, owed_step_121 c]
  rw [wp_bind]
  iapply (part62_spec' m K c _ _ (owedAfter c 122) (W))
  isplitl [T13]
  · iexact T13
  isplitl [T14]
  · iexact T14
  isplitl [T15]
  · iexact T15
  isplitl [T16]
  · iexact T16
  isplitl [T17]
  · iexact T17
  isplitl [T18]
  · iexact T18
  isplitl [H_owes]
  · iexact H_owes
  iintro %v1615 ⟨P19, P20, H_owes⟩
  try dsimp only
  ihave F_recvRes_agS_0 := (bigSepL_snoc (fun k : Fin 32 => recvRes m K agS c 0 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_recvRes_agS_0 P19]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_recvRes_agS_0 P20]
  · isplitl [F_recvRes_agS_0] <;> iassumption
  -- k0_part63
  icases (bigSepL_pop (fun k : Fin 32 => copyRes m K agS agR c 0 k) 30 31 []) $$ F_copyRes_agS_0 with ⟨T21, F_copyRes_agS_0⟩
  icases (bigSepL_pop (fun k : Fin 32 => outShareAt m c 0 k) 30 31 []) $$ F_outShare_0 with ⟨T22, F_outShare_0⟩
  icases (bigSepL_pop (fun k : Fin 32 => peerOutAt c 0 k) 30 31 []) $$ F_peerOut_0 with ⟨T23, F_peerOut_0⟩
  ihave T24 := (bigSepL_one (fun k : Fin 32 => copyRes m K agS agR c 0 k) 31) $$ F_copyRes_agS_0
  ihave T25 := (bigSepL_one (fun k : Fin 32 => outShareAt m c 0 k) 31) $$ F_outShare_0
  ihave T26 := (bigSepL_one (fun k : Fin 32 => peerOutAt c 0 k) 31) $$ F_peerOut_0
  rw [owed_step_122 c, owed_step_123 c]
  rw [wp_bind]
  iapply (part63_spec' m K c _ _ (owedAfter c 124) (W))
  isplitl [T21]
  · iexact T21
  isplitl [T22]
  · iexact T22
  isplitl [T23]
  · iexact T23
  isplitl [T24]
  · iexact T24
  isplitl [T25]
  · iexact T25
  isplitl [T26]
  · iexact T26
  isplitl [H_owes]
  · iexact H_owes
  iintro %r ⟨P27, P28, H_owes⟩
  try dsimp only
  ihave F_recvRes_agS_0 := (bigSepL_snoc (fun k : Fin 32 => recvRes m K agS c 0 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_recvRes_agS_0 P27]
  · isplitl [F_recvRes_agS_0] <;> iassumption
  ihave F_recvRes_agS_0 := (bigSepL_snoc (fun k : Fin 32 => recvRes m K agS c 0 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_recvRes_agS_0 P28]
  · isplitl [F_recvRes_agS_0] <;> iassumption
  -- k0_part64
  icases (bigSepL_pop (fun k : Fin 32 => recvRes m K rsR c 1 k) 1 2 [3, 4, 5, 6, 7, 8, 9, 10, 11, 12, 13, 14, 15, 16, 17, 18, 19, 20, 21, 22, 23, 24, 25, 26, 27, 28, 29, 30, 31]) $$ F_recvRes_rsR_1 with ⟨T29, F_recvRes_rsR_1⟩
  icases (bigSepL_pop (fun k : Fin 32 => recvRes m K rsR c 1 k) 2 3 [4, 5, 6, 7, 8, 9, 10, 11, 12, 13, 14, 15, 16, 17, 18, 19, 20, 21, 22, 23, 24, 25, 26, 27, 28, 29, 30, 31]) $$ F_recvRes_rsR_1 with ⟨T30, F_recvRes_rsR_1⟩
  rw [wp_bind]
  iapply (part64_spec' m K c _ (W))
  isplitl [T29]
  · iexact T29
  isplitl [T30]
  · iexact T30
  isplitl []
  · iexact Hlev
  isplitl [H_owes]
  · iexact H_owes
  iintro %r ⟨P31, P32, P33, P34, H_owes⟩
  try dsimp only
  ihave F_got_rsR_1 := (bigSepL_snoc (fun k : Fin 32 => gotRsR m c 1 k) [0] 1 [0, 1] rfl) $$ [F_got_rsR_1 P31]
  · isplitl [F_got_rsR_1] <;> iassumption
  ihave F_closed_rsR_1 := (bigSepL_wrap (fun k : Fin 32 => closedAt m K c 1 k rsR) 1) $$ P32
  ihave F_got_rsR_1 := (bigSepL_snoc (fun k : Fin 32 => gotRsR m c 1 k) [0, 1] 2 [0, 1, 2] rfl) $$ [F_got_rsR_1 P33]
  · isplitl [F_got_rsR_1] <;> iassumption
  ihave F_closed_rsR_1 := (bigSepL_snoc (fun k : Fin 32 => closedAt m K c 1 k rsR) [1] 2 [1, 2] rfl) $$ [F_closed_rsR_1 P34]
  · isplitl [F_closed_rsR_1] <;> iassumption
  -- k0_part65
  icases (bigSepL_pop (fun k : Fin 32 => recvRes m K rsR c 1 k) 3 4 [5, 6, 7, 8, 9, 10, 11, 12, 13, 14, 15, 16, 17, 18, 19, 20, 21, 22, 23, 24, 25, 26, 27, 28, 29, 30, 31]) $$ F_recvRes_rsR_1 with ⟨T35, F_recvRes_rsR_1⟩
  icases (bigSepL_pop (fun k : Fin 32 => recvRes m K rsR c 1 k) 4 5 [6, 7, 8, 9, 10, 11, 12, 13, 14, 15, 16, 17, 18, 19, 20, 21, 22, 23, 24, 25, 26, 27, 28, 29, 30, 31]) $$ F_recvRes_rsR_1 with ⟨T36, F_recvRes_rsR_1⟩
  rw [wp_bind]
  iapply (part65_spec' m K c _ (insert (SemLoc.dma (semAt (arr rsR) 1 2), ()) (insert (SemLoc.dma (semAt (arr rsR) 1 1), ()) (W))))
  isplitl [T35]
  · iexact T35
  isplitl [T36]
  · iexact T36
  isplitl []
  · iexact Hlev
  isplitl [H_owes]
  · iexact H_owes
  iintro %r ⟨P37, P38, P39, P40, H_owes⟩
  try dsimp only
  ihave F_got_rsR_1 := (bigSepL_snoc (fun k : Fin 32 => gotRsR m c 1 k) [0, 1, 2] 3 [0, 1, 2, 3] rfl) $$ [F_got_rsR_1 P37]
  · isplitl [F_got_rsR_1] <;> iassumption
  ihave F_closed_rsR_1 := (bigSepL_snoc (fun k : Fin 32 => closedAt m K c 1 k rsR) [1, 2] 3 [1, 2, 3] rfl) $$ [F_closed_rsR_1 P38]
  · isplitl [F_closed_rsR_1] <;> iassumption
  ihave F_got_rsR_1 := (bigSepL_snoc (fun k : Fin 32 => gotRsR m c 1 k) [0, 1, 2, 3] 4 [0, 1, 2, 3, 4] rfl) $$ [F_got_rsR_1 P39]
  · isplitl [F_got_rsR_1] <;> iassumption
  ihave F_closed_rsR_1 := (bigSepL_snoc (fun k : Fin 32 => closedAt m K c 1 k rsR) [1, 2, 3] 4 [1, 2, 3, 4] rfl) $$ [F_closed_rsR_1 P40]
  · isplitl [F_closed_rsR_1] <;> iassumption
  -- k0_part66
  icases (bigSepL_pop (fun k : Fin 32 => recvRes m K rsR c 1 k) 5 6 [7, 8, 9, 10, 11, 12, 13, 14, 15, 16, 17, 18, 19, 20, 21, 22, 23, 24, 25, 26, 27, 28, 29, 30, 31]) $$ F_recvRes_rsR_1 with ⟨T41, F_recvRes_rsR_1⟩
  icases (bigSepL_pop (fun k : Fin 32 => recvRes m K rsR c 1 k) 6 7 [8, 9, 10, 11, 12, 13, 14, 15, 16, 17, 18, 19, 20, 21, 22, 23, 24, 25, 26, 27, 28, 29, 30, 31]) $$ F_recvRes_rsR_1 with ⟨T42, F_recvRes_rsR_1⟩
  rw [wp_bind]
  iapply (part66_spec' m K c _ (insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))
  isplitl [T41]
  · iexact T41
  isplitl [T42]
  · iexact T42
  isplitl []
  · iexact Hlev
  isplitl [H_owes]
  · iexact H_owes
  iintro %r ⟨P43, P44, P45, P46, H_owes⟩
  try dsimp only
  ihave F_got_rsR_1 := (bigSepL_snoc (fun k : Fin 32 => gotRsR m c 1 k) [0, 1, 2, 3, 4] 5 [0, 1, 2, 3, 4, 5] rfl) $$ [F_got_rsR_1 P43]
  · isplitl [F_got_rsR_1] <;> iassumption
  ihave F_closed_rsR_1 := (bigSepL_snoc (fun k : Fin 32 => closedAt m K c 1 k rsR) [1, 2, 3, 4] 5 [1, 2, 3, 4, 5] rfl) $$ [F_closed_rsR_1 P44]
  · isplitl [F_closed_rsR_1] <;> iassumption
  ihave F_got_rsR_1 := (bigSepL_snoc (fun k : Fin 32 => gotRsR m c 1 k) [0, 1, 2, 3, 4, 5] 6 [0, 1, 2, 3, 4, 5, 6] rfl) $$ [F_got_rsR_1 P45]
  · isplitl [F_got_rsR_1] <;> iassumption
  ihave F_closed_rsR_1 := (bigSepL_snoc (fun k : Fin 32 => closedAt m K c 1 k rsR) [1, 2, 3, 4, 5] 6 [1, 2, 3, 4, 5, 6] rfl) $$ [F_closed_rsR_1 P46]
  · isplitl [F_closed_rsR_1] <;> iassumption
  -- k0_part67
  icases (bigSepL_pop (fun k : Fin 32 => recvRes m K rsR c 1 k) 7 8 [9, 10, 11, 12, 13, 14, 15, 16, 17, 18, 19, 20, 21, 22, 23, 24, 25, 26, 27, 28, 29, 30, 31]) $$ F_recvRes_rsR_1 with ⟨T47, F_recvRes_rsR_1⟩
  icases (bigSepL_pop (fun k : Fin 32 => recvRes m K rsR c 1 k) 8 9 [10, 11, 12, 13, 14, 15, 16, 17, 18, 19, 20, 21, 22, 23, 24, 25, 26, 27, 28, 29, 30, 31]) $$ F_recvRes_rsR_1 with ⟨T48, F_recvRes_rsR_1⟩
  icases (bigSepL_pop (fun k : Fin 32 => recvRes m K rsR c 1 k) 9 10 [11, 12, 13, 14, 15, 16, 17, 18, 19, 20, 21, 22, 23, 24, 25, 26, 27, 28, 29, 30, 31]) $$ F_recvRes_rsR_1 with ⟨T49, F_recvRes_rsR_1⟩
  rw [wp_bind]
  iapply (part67_spec' m K c _ (insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))
  isplitl [T47]
  · iexact T47
  isplitl [T48]
  · iexact T48
  isplitl [T49]
  · iexact T49
  isplitl []
  · iexact Hlev
  isplitl [H_owes]
  · iexact H_owes
  iintro %r ⟨P50, P51, P52, P53, P54, P55, H_owes⟩
  try dsimp only
  ihave F_got_rsR_1 := (bigSepL_snoc (fun k : Fin 32 => gotRsR m c 1 k) [0, 1, 2, 3, 4, 5, 6] 7 [0, 1, 2, 3, 4, 5, 6, 7] rfl) $$ [F_got_rsR_1 P50]
  · isplitl [F_got_rsR_1] <;> iassumption
  ihave F_closed_rsR_1 := (bigSepL_snoc (fun k : Fin 32 => closedAt m K c 1 k rsR) [1, 2, 3, 4, 5, 6] 7 [1, 2, 3, 4, 5, 6, 7] rfl) $$ [F_closed_rsR_1 P51]
  · isplitl [F_closed_rsR_1] <;> iassumption
  ihave F_got_rsR_1 := (bigSepL_snoc (fun k : Fin 32 => gotRsR m c 1 k) [0, 1, 2, 3, 4, 5, 6, 7] 8 [0, 1, 2, 3, 4, 5, 6, 7, 8] rfl) $$ [F_got_rsR_1 P52]
  · isplitl [F_got_rsR_1] <;> iassumption
  ihave F_closed_rsR_1 := (bigSepL_snoc (fun k : Fin 32 => closedAt m K c 1 k rsR) [1, 2, 3, 4, 5, 6, 7] 8 [1, 2, 3, 4, 5, 6, 7, 8] rfl) $$ [F_closed_rsR_1 P53]
  · isplitl [F_closed_rsR_1] <;> iassumption
  ihave F_got_rsR_1 := (bigSepL_snoc (fun k : Fin 32 => gotRsR m c 1 k) [0, 1, 2, 3, 4, 5, 6, 7, 8] 9 [0, 1, 2, 3, 4, 5, 6, 7, 8, 9] rfl) $$ [F_got_rsR_1 P54]
  · isplitl [F_got_rsR_1] <;> iassumption
  ihave F_closed_rsR_1 := (bigSepL_snoc (fun k : Fin 32 => closedAt m K c 1 k rsR) [1, 2, 3, 4, 5, 6, 7, 8] 9 [1, 2, 3, 4, 5, 6, 7, 8, 9] rfl) $$ [F_closed_rsR_1 P55]
  · isplitl [F_closed_rsR_1] <;> iassumption
  -- k0_part68
  icases (bigSepL_pop (fun k : Fin 32 => recvRes m K rsR c 1 k) 10 11 [12, 13, 14, 15, 16, 17, 18, 19, 20, 21, 22, 23, 24, 25, 26, 27, 28, 29, 30, 31]) $$ F_recvRes_rsR_1 with ⟨T56, F_recvRes_rsR_1⟩
  icases (bigSepL_pop (fun k : Fin 32 => recvRes m K rsR c 1 k) 11 12 [13, 14, 15, 16, 17, 18, 19, 20, 21, 22, 23, 24, 25, 26, 27, 28, 29, 30, 31]) $$ F_recvRes_rsR_1 with ⟨T57, F_recvRes_rsR_1⟩
  rw [wp_bind]
  iapply (part68_spec' m K c _ (insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))
  isplitl [T56]
  · iexact T56
  isplitl [T57]
  · iexact T57
  isplitl []
  · iexact Hlev
  isplitl [H_owes]
  · iexact H_owes
  iintro %v1759 ⟨P58, P59, P60, P61, H_owes⟩
  try dsimp only
  ihave F_got_rsR_1 := (bigSepL_snoc (fun k : Fin 32 => gotRsR m c 1 k) [0, 1, 2, 3, 4, 5, 6, 7, 8, 9] 10 [0, 1, 2, 3, 4, 5, 6, 7, 8, 9, 10] rfl) $$ [F_got_rsR_1 P58]
  · isplitl [F_got_rsR_1] <;> iassumption
  ihave F_closed_rsR_1 := (bigSepL_snoc (fun k : Fin 32 => closedAt m K c 1 k rsR) [1, 2, 3, 4, 5, 6, 7, 8, 9] 10 [1, 2, 3, 4, 5, 6, 7, 8, 9, 10] rfl) $$ [F_closed_rsR_1 P59]
  · isplitl [F_closed_rsR_1] <;> iassumption
  ihave F_got_rsR_1 := (bigSepL_snoc (fun k : Fin 32 => gotRsR m c 1 k) [0, 1, 2, 3, 4, 5, 6, 7, 8, 9, 10] 11 [0, 1, 2, 3, 4, 5, 6, 7, 8, 9, 10, 11] rfl) $$ [F_got_rsR_1 P60]
  · isplitl [F_got_rsR_1] <;> iassumption
  ihave F_closed_rsR_1 := (bigSepL_snoc (fun k : Fin 32 => closedAt m K c 1 k rsR) [1, 2, 3, 4, 5, 6, 7, 8, 9, 10] 11 [1, 2, 3, 4, 5, 6, 7, 8, 9, 10, 11] rfl) $$ [F_closed_rsR_1 P61]
  · isplitl [F_closed_rsR_1] <;> iassumption
  -- k0_part69
  icases (bigSepL_pop (fun k : Fin 32 => recvRes m K rsR c 1 k) 12 13 [14, 15, 16, 17, 18, 19, 20, 21, 22, 23, 24, 25, 26, 27, 28, 29, 30, 31]) $$ F_recvRes_rsR_1 with ⟨T62, F_recvRes_rsR_1⟩
  icases (bigSepL_pop (fun k : Fin 32 => recvRes m K rsR c 1 k) 13 14 [15, 16, 17, 18, 19, 20, 21, 22, 23, 24, 25, 26, 27, 28, 29, 30, 31]) $$ F_recvRes_rsR_1 with ⟨T63, F_recvRes_rsR_1⟩
  rw [wp_bind]
  iapply (part69_spec' m K c _ _ (insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))
  isplitl [T62]
  · iexact T62
  isplitl [T63]
  · iexact T63
  isplitl []
  · iexact Hlev
  isplitl [H_owes]
  · iexact H_owes
  iintro %v1782 ⟨P64, P65, P66, P67, H_owes⟩
  try dsimp only
  ihave F_got_rsR_1 := (bigSepL_snoc (fun k : Fin 32 => gotRsR m c 1 k) [0, 1, 2, 3, 4, 5, 6, 7, 8, 9, 10, 11] 12 [0, 1, 2, 3, 4, 5, 6, 7, 8, 9, 10, 11, 12] rfl) $$ [F_got_rsR_1 P64]
  · isplitl [F_got_rsR_1] <;> iassumption
  ihave F_closed_rsR_1 := (bigSepL_snoc (fun k : Fin 32 => closedAt m K c 1 k rsR) [1, 2, 3, 4, 5, 6, 7, 8, 9, 10, 11] 12 [1, 2, 3, 4, 5, 6, 7, 8, 9, 10, 11, 12] rfl) $$ [F_closed_rsR_1 P65]
  · isplitl [F_closed_rsR_1] <;> iassumption
  ihave F_got_rsR_1 := (bigSepL_snoc (fun k : Fin 32 => gotRsR m c 1 k) [0, 1, 2, 3, 4, 5, 6, 7, 8, 9, 10, 11, 12] 13 [0, 1, 2, 3, 4, 5, 6, 7, 8, 9, 10, 11, 12, 13] rfl) $$ [F_got_rsR_1 P66]
  · isplitl [F_got_rsR_1] <;> iassumption
  ihave F_closed_rsR_1 := (bigSepL_snoc (fun k : Fin 32 => closedAt m K c 1 k rsR) [1, 2, 3, 4, 5, 6, 7, 8, 9, 10, 11, 12] 13 [1, 2, 3, 4, 5, 6, 7, 8, 9, 10, 11, 12, 13] rfl) $$ [F_closed_rsR_1 P67]
  · isplitl [F_closed_rsR_1] <;> iassumption
  -- k0_part70
  icases (bigSepL_pop (fun k : Fin 32 => recvRes m K rsR c 1 k) 14 15 [16, 17, 18, 19, 20, 21, 22, 23, 24, 25, 26, 27, 28, 29, 30, 31]) $$ F_recvRes_rsR_1 with ⟨T68, F_recvRes_rsR_1⟩
  icases (bigSepL_pop (fun k : Fin 32 => recvRes m K rsR c 1 k) 15 16 [17, 18, 19, 20, 21, 22, 23, 24, 25, 26, 27, 28, 29, 30, 31]) $$ F_recvRes_rsR_1 with ⟨T69, F_recvRes_rsR_1⟩
  rw [wp_bind]
  iapply (part70_spec' m K c _ _ (insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))
  isplitl [T68]
  · iexact T68
  isplitl [T69]
  · iexact T69
  isplitl []
  · iexact Hlev
  isplitl [H_owes]
  · iexact H_owes
  iintro %v1805 ⟨P70, P71, P72, P73, H_owes⟩
  try dsimp only
  ihave F_got_rsR_1 := (bigSepL_snoc (fun k : Fin 32 => gotRsR m c 1 k) [0, 1, 2, 3, 4, 5, 6, 7, 8, 9, 10, 11, 12, 13] 14 [0, 1, 2, 3, 4, 5, 6, 7, 8, 9, 10, 11, 12, 13, 14] rfl) $$ [F_got_rsR_1 P70]
  · isplitl [F_got_rsR_1] <;> iassumption
  ihave F_closed_rsR_1 := (bigSepL_snoc (fun k : Fin 32 => closedAt m K c 1 k rsR) [1, 2, 3, 4, 5, 6, 7, 8, 9, 10, 11, 12, 13] 14 [1, 2, 3, 4, 5, 6, 7, 8, 9, 10, 11, 12, 13, 14] rfl) $$ [F_closed_rsR_1 P71]
  · isplitl [F_closed_rsR_1] <;> iassumption
  ihave F_got_rsR_1 := (bigSepL_snoc (fun k : Fin 32 => gotRsR m c 1 k) [0, 1, 2, 3, 4, 5, 6, 7, 8, 9, 10, 11, 12, 13, 14] 15 [0, 1, 2, 3, 4, 5, 6, 7, 8, 9, 10, 11, 12, 13, 14, 15] rfl) $$ [F_got_rsR_1 P72]
  · isplitl [F_got_rsR_1] <;> iassumption
  ihave F_closed_rsR_1 := (bigSepL_snoc (fun k : Fin 32 => closedAt m K c 1 k rsR) [1, 2, 3, 4, 5, 6, 7, 8, 9, 10, 11, 12, 13, 14] 15 [1, 2, 3, 4, 5, 6, 7, 8, 9, 10, 11, 12, 13, 14, 15] rfl) $$ [F_closed_rsR_1 P73]
  · isplitl [F_closed_rsR_1] <;> iassumption
  -- k0_part71
  icases (bigSepL_pop (fun k : Fin 32 => recvRes m K rsR c 1 k) 16 17 [18, 19, 20, 21, 22, 23, 24, 25, 26, 27, 28, 29, 30, 31]) $$ F_recvRes_rsR_1 with ⟨T74, F_recvRes_rsR_1⟩
  icases (bigSepL_pop (fun k : Fin 32 => recvRes m K rsR c 1 k) 17 18 [19, 20, 21, 22, 23, 24, 25, 26, 27, 28, 29, 30, 31]) $$ F_recvRes_rsR_1 with ⟨T75, F_recvRes_rsR_1⟩
  rw [wp_bind]
  iapply (part71_spec' m K c _ _ (insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))
  isplitl [T74]
  · iexact T74
  isplitl [T75]
  · iexact T75
  isplitl []
  · iexact Hlev
  isplitl [H_owes]
  · iexact H_owes
  iintro %v1827 ⟨P76, P77, P78, P79, H_owes⟩
  try dsimp only
  ihave F_got_rsR_1 := (bigSepL_snoc (fun k : Fin 32 => gotRsR m c 1 k) [0, 1, 2, 3, 4, 5, 6, 7, 8, 9, 10, 11, 12, 13, 14, 15] 16 [0, 1, 2, 3, 4, 5, 6, 7, 8, 9, 10, 11, 12, 13, 14, 15, 16] rfl) $$ [F_got_rsR_1 P76]
  · isplitl [F_got_rsR_1] <;> iassumption
  ihave F_closed_rsR_1 := (bigSepL_snoc (fun k : Fin 32 => closedAt m K c 1 k rsR) [1, 2, 3, 4, 5, 6, 7, 8, 9, 10, 11, 12, 13, 14, 15] 16 [1, 2, 3, 4, 5, 6, 7, 8, 9, 10, 11, 12, 13, 14, 15, 16] rfl) $$ [F_closed_rsR_1 P77]
  · isplitl [F_closed_rsR_1] <;> iassumption
  ihave F_got_rsR_1 := (bigSepL_snoc (fun k : Fin 32 => gotRsR m c 1 k) [0, 1, 2, 3, 4, 5, 6, 7, 8, 9, 10, 11, 12, 13, 14, 15, 16] 17 [0, 1, 2, 3, 4, 5, 6, 7, 8, 9, 10, 11, 12, 13, 14, 15, 16, 17] rfl) $$ [F_got_rsR_1 P78]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16] 17 [1, 2, 3, 4, 5, 6, 7, 8, 9, 10, 11, 12, 13, 14, 15, 16, 17] rfl) $$ [F_closed_rsR_1 P79]
  · isplitl [F_closed_rsR_1] <;> iassumption
  -- k0_part72
  icases (bigSepL_pop (fun k : Fin 32 => recvRes m K rsR c 1 k) 18 19 [20, 21, 22, 23, 24, 25, 26, 27, 28, 29, 30, 31]) $$ F_recvRes_rsR_1 with ⟨T80, F_recvRes_rsR_1⟩
  icases (bigSepL_pop (fun k : Fin 32 => recvRes m K rsR c 1 k) 19 20 [21, 22, 23, 24, 25, 26, 27, 28, 29, 30, 31]) $$ F_recvRes_rsR_1 with ⟨T81, F_recvRes_rsR_1⟩
  rw [wp_bind]
  iapply (part72_spec' m K c _ _ (insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))
  isplitl [T80]
  · iexact T80
  isplitl [T81]
  · iexact T81
  isplitl []
  · iexact Hlev
  isplitl [H_owes]
  · iexact H_owes
  iintro %v1849 ⟨P82, P83, P84, P85, H_owes⟩
  try dsimp only
  ihave F_got_rsR_1 := (bigSepL_snoc (fun k : Fin 32 => gotRsR m c 1 k) [0, 1, 2, 3, 4, 5, 6, 7, 8, 9, 10, 11, 12, 13, 14, 15, 16, 17] 18 [0, 1, 2, 3, 4, 5, 6, 7, 8, 9, 10, 11, 12, 13, 14, 15, 16, 17, 18] rfl) $$ [F_got_rsR_1 P82]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17] 18 [1, 2, 3, 4, 5, 6, 7, 8, 9, 10, 11, 12, 13, 14, 15, 16, 17, 18] rfl) $$ [F_closed_rsR_1 P83]
  · isplitl [F_closed_rsR_1] <;> iassumption
  ihave F_got_rsR_1 := (bigSepL_snoc (fun k : Fin 32 => gotRsR m c 1 k) [0, 1, 2, 3, 4, 5, 6, 7, 8, 9, 10, 11, 12, 13, 14, 15, 16, 17, 18] 19 [0, 1, 2, 3, 4, 5, 6, 7, 8, 9, 10, 11, 12, 13, 14, 15, 16, 17, 18, 19] rfl) $$ [F_got_rsR_1 P84]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_closed_rsR_1 P85]
  · isplitl [F_closed_rsR_1] <;> iassumption
  -- k0_part73
  icases (bigSepL_pop (fun k : Fin 32 => recvRes m K rsR c 1 k) 20 21 [22, 23, 24, 25, 26, 27, 28, 29, 30, 31]) $$ F_recvRes_rsR_1 with ⟨T86, F_recvRes_rsR_1⟩
  icases (bigSepL_pop (fun k : Fin 32 => recvRes m K rsR c 1 k) 21 22 [23, 24, 25, 26, 27, 28, 29, 30, 31]) $$ F_recvRes_rsR_1 with ⟨T87, F_recvRes_rsR_1⟩
  rw [wp_bind]
  iapply (part73_spec' m K c _ _ (insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))
  isplitl [T86]
  · iexact T86
  isplitl [T87]
  · iexact T87
  isplitl []
  · iexact Hlev
  isplitl [H_owes]
  · iexact H_owes
  iintro %v1871 ⟨P88, P89, P90, P91, H_owes⟩
  try dsimp only
  ihave F_got_rsR_1 := (bigSepL_snoc (fun k : Fin 32 => gotRsR m c 1 k) [0, 1, 2, 3, 4, 5, 6, 7, 8, 9, 10, 11, 12, 13, 14, 15, 16, 17, 18, 19] 20 [0, 1, 2, 3, 4, 5, 6, 7, 8, 9, 10, 11, 12, 13, 14, 15, 16, 17, 18, 19, 20] rfl) $$ [F_got_rsR_1 P88]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_closed_rsR_1 P89]
  · isplitl [F_closed_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20] 21 [0, 1, 2, 3, 4, 5, 6, 7, 8, 9, 10, 11, 12, 13, 14, 15, 16, 17, 18, 19, 20, 21] rfl) $$ [F_got_rsR_1 P90]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_closed_rsR_1 P91]
  · isplitl [F_closed_rsR_1] <;> iassumption
  -- k0_part74
  icases (bigSepL_pop (fun k : Fin 32 => recvRes m K rsR c 1 k) 22 23 [24, 25, 26, 27, 28, 29, 30, 31]) $$ F_recvRes_rsR_1 with ⟨T92, F_recvRes_rsR_1⟩
  icases (bigSepL_pop (fun k : Fin 32 => recvRes m K rsR c 1 k) 23 24 [25, 26, 27, 28, 29, 30, 31]) $$ F_recvRes_rsR_1 with ⟨T93, F_recvRes_rsR_1⟩
  rw [wp_bind]
  iapply (part74_spec' m K c _ _ (insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))
  isplitl [T92]
  · iexact T92
  isplitl [T93]
  · iexact T93
  isplitl []
  · iexact Hlev
  isplitl [H_owes]
  · iexact H_owes
  iintro %v1893 ⟨P94, P95, P96, P97, H_owes⟩
  try dsimp only
  ihave F_got_rsR_1 := (bigSepL_snoc (fun k : Fin 32 => gotRsR m c 1 k) [0, 1, 2, 3, 4, 5, 6, 7, 8, 9, 10, 11, 12, 13, 14, 15, 16, 17, 18, 19, 20, 21] 22 [0, 1, 2, 3, 4, 5, 6, 7, 8, 9, 10, 11, 12, 13, 14, 15, 16, 17, 18, 19, 20, 21, 22] rfl) $$ [F_got_rsR_1 P94]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_closed_rsR_1 P95]
  · isplitl [F_closed_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22] 23 [0, 1, 2, 3, 4, 5, 6, 7, 8, 9, 10, 11, 12, 13, 14, 15, 16, 17, 18, 19, 20, 21, 22, 23] rfl) $$ [F_got_rsR_1 P96]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_closed_rsR_1 P97]
  · isplitl [F_closed_rsR_1] <;> iassumption
  -- k0_part75
  icases (bigSepL_pop (fun k : Fin 32 => recvRes m K rsR c 1 k) 24 25 [26, 27, 28, 29, 30, 31]) $$ F_recvRes_rsR_1 with ⟨T98, F_recvRes_rsR_1⟩
  icases (bigSepL_pop (fun k : Fin 32 => recvRes m K rsR c 1 k) 25 26 [27, 28, 29, 30, 31]) $$ F_recvRes_rsR_1 with ⟨T99, F_recvRes_rsR_1⟩
  rw [wp_bind]
  iapply (part75_spec' m K c _ _ (insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))
  isplitl [T98]
  · iexact T98
  isplitl [T99]
  · iexact T99
  isplitl []
  · iexact Hlev
  isplitl [H_owes]
  · iexact H_owes
  iintro %v1916 ⟨P100, P101, P102, P103, H_owes⟩
  try dsimp only
  ihave F_got_rsR_1 := (bigSepL_snoc (fun k : Fin 32 => gotRsR m c 1 k) [0, 1, 2, 3, 4, 5, 6, 7, 8, 9, 10, 11, 12, 13, 14, 15, 16, 17, 18, 19, 20, 21, 22, 23] 24 [0, 1, 2, 3, 4, 5, 6, 7, 8, 9, 10, 11, 12, 13, 14, 15, 16, 17, 18, 19, 20, 21, 22, 23, 24] rfl) $$ [F_got_rsR_1 P100]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_closed_rsR_1 P101]
  · isplitl [F_closed_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24] 25 [0, 1, 2, 3, 4, 5, 6, 7, 8, 9, 10, 11, 12, 13, 14, 15, 16, 17, 18, 19, 20, 21, 22, 23, 24, 25] rfl) $$ [F_got_rsR_1 P102]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_closed_rsR_1 P103]
  · isplitl [F_closed_rsR_1] <;> iassumption
  -- k0_part76
  icases (bigSepL_pop (fun k : Fin 32 => recvRes m K rsR c 1 k) 26 27 [28, 29, 30, 31]) $$ F_recvRes_rsR_1 with ⟨T104, F_recvRes_rsR_1⟩
  icases (bigSepL_pop (fun k : Fin 32 => recvRes m K rsR c 1 k) 27 28 [29, 30, 31]) $$ F_recvRes_rsR_1 with ⟨T105, F_recvRes_rsR_1⟩
  rw [wp_bind]
  iapply (part76_spec' m K c _ _ (insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))
  isplitl [T104]
  · iexact T104
  isplitl [T105]
  · iexact T105
  isplitl []
  · iexact Hlev
  isplitl [H_owes]
  · iexact H_owes
  iintro %r ⟨P106, P107, P108, P109, H_owes⟩
  try dsimp only
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25] 26 [0, 1, 2, 3, 4, 5, 6, 7, 8, 9, 10, 11, 12, 13, 14, 15, 16, 17, 18, 19, 20, 21, 22, 23, 24, 25, 26] rfl) $$ [F_got_rsR_1 P106]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_closed_rsR_1 P107]
  · isplitl [F_closed_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25, 26] 27 [0, 1, 2, 3, 4, 5, 6, 7, 8, 9, 10, 11, 12, 13, 14, 15, 16, 17, 18, 19, 20, 21, 22, 23, 24, 25, 26, 27] rfl) $$ [F_got_rsR_1 P108]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_closed_rsR_1 P109]
  · isplitl [F_closed_rsR_1] <;> iassumption
  -- k0_part77
  icases (bigSepL_pop (fun k : Fin 32 => recvRes m K rsR c 1 k) 28 29 [30, 31]) $$ F_recvRes_rsR_1 with ⟨T110, F_recvRes_rsR_1⟩
  icases (bigSepL_pop (fun k : Fin 32 => recvRes m K rsR c 1 k) 29 30 [31]) $$ F_recvRes_rsR_1 with ⟨T111, F_recvRes_rsR_1⟩
  rw [wp_bind]
  iapply (part77_spec' m K c _ (insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))
  isplitl [T110]
  · iexact T110
  isplitl [T111]
  · iexact T111
  isplitl []
  · iexact Hlev
  isplitl [H_owes]
  · iexact H_owes
  iintro %r ⟨P112, P113, P114, P115, H_owes⟩
  try dsimp only
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25, 26, 27] 28 [0, 1, 2, 3, 4, 5, 6, 7, 8, 9, 10, 11, 12, 13, 14, 15, 16, 17, 18, 19, 20, 21, 22, 23, 24, 25, 26, 27, 28] rfl) $$ [F_got_rsR_1 P112]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_closed_rsR_1 P113]
  · isplitl [F_closed_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25, 26, 27, 28] 29 [0, 1, 2, 3, 4, 5, 6, 7, 8, 9, 10, 11, 12, 13, 14, 15, 16, 17, 18, 19, 20, 21, 22, 23, 24, 25, 26, 27, 28, 29] rfl) $$ [F_got_rsR_1 P114]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_closed_rsR_1 P115]
  · isplitl [F_closed_rsR_1] <;> iassumption
  -- k0_part78
  icases (bigSepL_pop (fun k : Fin 32 => recvRes m K rsR c 1 k) 30 31 []) $$ F_recvRes_rsR_1 with ⟨T116, F_recvRes_rsR_1⟩
  ihave T117 := (bigSepL_one (fun k : Fin 32 => recvRes m K rsR c 1 k) 31) $$ F_recvRes_rsR_1
  icases (bigSepL_pop (fun k : Fin 32 => gotRsR m c 1 k) 0 1 [2, 3, 4, 5, 6, 7, 8, 9, 10, 11, 12, 13, 14, 15, 16, 17, 18, 19, 20, 21, 22, 23, 24, 25, 26, 27, 28, 29]) $$ F_got_rsR_1 with ⟨T118, F_got_rsR_1⟩
  icases (bigSepL_pop (fun k : Fin 32 => gotRsR m c 1 k) 1 2 [3, 4, 5, 6, 7, 8, 9, 10, 11, 12, 13, 14, 15, 16, 17, 18, 19, 20, 21, 22, 23, 24, 25, 26, 27, 28, 29]) $$ F_got_rsR_1 with ⟨T119, F_got_rsR_1⟩
  icases (bigSepL_pop (fun k : Fin 32 => gotRsR m c 1 k) 2 3 [4, 5, 6, 7, 8, 9, 10, 11, 12, 13, 14, 15, 16, 17, 18, 19, 20, 21, 22, 23, 24, 25, 26, 27, 28, 29]) $$ F_got_rsR_1 with ⟨T120, F_got_rsR_1⟩
  icases (bigSepL_pop (fun k : Fin 32 => gotRsR m c 1 k) 3 4 [5, 6, 7, 8, 9, 10, 11, 12, 13, 14, 15, 16, 17, 18, 19, 20, 21, 22, 23, 24, 25, 26, 27, 28, 29]) $$ F_got_rsR_1 with ⟨T121, F_got_rsR_1⟩
  icases (bigSepL_pop (fun k : Fin 32 => gotRsR m c 1 k) 4 5 [6, 7, 8, 9, 10, 11, 12, 13, 14, 15, 16, 17, 18, 19, 20, 21, 22, 23, 24, 25, 26, 27, 28, 29]) $$ F_got_rsR_1 with ⟨T122, F_got_rsR_1⟩
  icases (bigSepL_pop (fun k : Fin 32 => gotRsR m c 1 k) 5 6 [7, 8, 9, 10, 11, 12, 13, 14, 15, 16, 17, 18, 19, 20, 21, 22, 23, 24, 25, 26, 27, 28, 29]) $$ F_got_rsR_1 with ⟨T123, F_got_rsR_1⟩
  icases (bigSepL_pop (fun k : Fin 32 => gotRsR m c 1 k) 6 7 [8, 9, 10, 11, 12, 13, 14, 15, 16, 17, 18, 19, 20, 21, 22, 23, 24, 25, 26, 27, 28, 29]) $$ F_got_rsR_1 with ⟨T124, F_got_rsR_1⟩
  icases (bigSepL_pop (fun k : Fin 32 => gotRsR m c 1 k) 7 8 [9, 10, 11, 12, 13, 14, 15, 16, 17, 18, 19, 20, 21, 22, 23, 24, 25, 26, 27, 28, 29]) $$ F_got_rsR_1 with ⟨T125, F_got_rsR_1⟩
  icases (bigSepL_pop (fun k : Fin 32 => gotRsR m c 1 k) 8 9 [10, 11, 12, 13, 14, 15, 16, 17, 18, 19, 20, 21, 22, 23, 24, 25, 26, 27, 28, 29]) $$ F_got_rsR_1 with ⟨T126, F_got_rsR_1⟩
  icases (bigSepL_pop (fun k : Fin 32 => gotRsR m c 1 k) 9 10 [11, 12, 13, 14, 15, 16, 17, 18, 19, 20, 21, 22, 23, 24, 25, 26, 27, 28, 29]) $$ F_got_rsR_1 with ⟨T127, F_got_rsR_1⟩
  icases (bigSepL_pop (fun k : Fin 32 => gotRsR m c 1 k) 10 11 [12, 13, 14, 15, 16, 17, 18, 19, 20, 21, 22, 23, 24, 25, 26, 27, 28, 29]) $$ F_got_rsR_1 with ⟨T128, F_got_rsR_1⟩
  icases (bigSepL_pop (fun k : Fin 32 => gotRsR m c 1 k) 11 12 [13, 14, 15, 16, 17, 18, 19, 20, 21, 22, 23, 24, 25, 26, 27, 28, 29]) $$ F_got_rsR_1 with ⟨T129, F_got_rsR_1⟩
  icases (bigSepL_pop (fun k : Fin 32 => gotRsR m c 1 k) 12 13 [14, 15, 16, 17, 18, 19, 20, 21, 22, 23, 24, 25, 26, 27, 28, 29]) $$ F_got_rsR_1 with ⟨T130, F_got_rsR_1⟩
  icases (bigSepL_pop (fun k : Fin 32 => gotRsR m c 1 k) 13 14 [15, 16, 17, 18, 19, 20, 21, 22, 23, 24, 25, 26, 27, 28, 29]) $$ F_got_rsR_1 with ⟨T131, F_got_rsR_1⟩
  icases (bigSepL_pop (fun k : Fin 32 => gotRsR m c 1 k) 14 15 [16, 17, 18, 19, 20, 21, 22, 23, 24, 25, 26, 27, 28, 29]) $$ F_got_rsR_1 with ⟨T132, F_got_rsR_1⟩
  icases (bigSepL_pop (fun k : Fin 32 => gotRsR m c 1 k) 15 16 [17, 18, 19, 20, 21, 22, 23, 24, 25, 26, 27, 28, 29]) $$ F_got_rsR_1 with ⟨T133, F_got_rsR_1⟩
  icases (bigSepL_pop (fun k : Fin 32 => gotRsR m c 1 k) 16 17 [18, 19, 20, 21, 22, 23, 24, 25, 26, 27, 28, 29]) $$ F_got_rsR_1 with ⟨T134, F_got_rsR_1⟩
  icases (bigSepL_pop (fun k : Fin 32 => gotRsR m c 1 k) 17 18 [19, 20, 21, 22, 23, 24, 25, 26, 27, 28, 29]) $$ F_got_rsR_1 with ⟨T135, F_got_rsR_1⟩
  icases (bigSepL_pop (fun k : Fin 32 => gotRsR m c 1 k) 18 19 [20, 21, 22, 23, 24, 25, 26, 27, 28, 29]) $$ F_got_rsR_1 with ⟨T136, F_got_rsR_1⟩
  icases (bigSepL_pop (fun k : Fin 32 => gotRsR m c 1 k) 19 20 [21, 22, 23, 24, 25, 26, 27, 28, 29]) $$ F_got_rsR_1 with ⟨T137, F_got_rsR_1⟩
  icases (bigSepL_pop (fun k : Fin 32 => gotRsR m c 1 k) 20 21 [22, 23, 24, 25, 26, 27, 28, 29]) $$ F_got_rsR_1 with ⟨T138, F_got_rsR_1⟩
  icases (bigSepL_pop (fun k : Fin 32 => gotRsR m c 1 k) 21 22 [23, 24, 25, 26, 27, 28, 29]) $$ F_got_rsR_1 with ⟨T139, F_got_rsR_1⟩
  icases (bigSepL_pop (fun k : Fin 32 => gotRsR m c 1 k) 22 23 [24, 25, 26, 27, 28, 29]) $$ F_got_rsR_1 with ⟨T140, F_got_rsR_1⟩
  icases (bigSepL_pop (fun k : Fin 32 => gotRsR m c 1 k) 23 24 [25, 26, 27, 28, 29]) $$ F_got_rsR_1 with ⟨T141, F_got_rsR_1⟩
  icases (bigSepL_pop (fun k : Fin 32 => gotRsR m c 1 k) 24 25 [26, 27, 28, 29]) $$ F_got_rsR_1 with ⟨T142, F_got_rsR_1⟩
  icases (bigSepL_pop (fun k : Fin 32 => gotRsR m c 1 k) 25 26 [27, 28, 29]) $$ F_got_rsR_1 with ⟨T143, F_got_rsR_1⟩
  icases (bigSepL_pop (fun k : Fin 32 => gotRsR m c 1 k) 26 27 [28, 29]) $$ F_got_rsR_1 with ⟨T144, F_got_rsR_1⟩
  icases (bigSepL_pop (fun k : Fin 32 => gotRsR m c 1 k) 27 28 [29]) $$ F_got_rsR_1 with ⟨T145, F_got_rsR_1⟩
  icases (bigSepL_pop (fun k : Fin 32 => gotRsR m c 1 k) 28 29 []) $$ F_got_rsR_1 with ⟨T146, F_got_rsR_1⟩
  ihave T147 := (bigSepL_one (fun k : Fin 32 => gotRsR m c 1 k) 29) $$ F_got_rsR_1
  rw [wp_bind]
  iapply (part78_spec' m K c _ (insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))
  isplitl [T116]
  · iexact T116
  isplitl [T117]
  · iexact T117
  isplitl []
  · iexact Hlev
  isplitl [T118]
  · iexact T118
  isplitl [T119]
  · iexact T119
  isplitl [T120]
  · iexact T120
  isplitl [T121]
  · iexact T121
  isplitl [T122]
  · iexact T122
  isplitl [T123]
  · iexact T123
  isplitl [T124]
  · iexact T124
  isplitl [T125]
  · iexact T125
  isplitl [T126]
  · iexact T126
  isplitl [T127]
  · iexact T127
  isplitl [T128]
  · iexact T128
  isplitl [T129]
  · iexact T129
  isplitl [T130]
  · iexact T130
  isplitl [T131]
  · iexact T131
  isplitl [T132]
  · iexact T132
  isplitl [T133]
  · iexact T133
  isplitl [T134]
  · iexact T134
  isplitl [T135]
  · iexact T135
  isplitl [T136]
  · iexact T136
  isplitl [T137]
  · iexact T137
  isplitl [T138]
  · iexact T138
  isplitl [T139]
  · iexact T139
  isplitl [T140]
  · iexact T140
  isplitl [T141]
  · iexact T141
  isplitl [T142]
  · iexact T142
  isplitl [T143]
  · iexact T143
  isplitl [T144]
  · iexact T144
  isplitl [T145]
  · iexact T145
  isplitl [T146]
  · iexact T146
  isplitl [T147]
  · iexact T147
  isplitl [H_owes]
  · iexact H_owes
  iintro  ⟨P148, P149, P150, P151, P152, P153, P154, P155, P156, P157, P158, P159, P160, P161, P162, P163, P164, P165, P166, P167, P168, P169, P170, P171, P172, P173, P174, P175, P176, P177, P178, P179, P180, P181, H_owes⟩
  try dsimp only
  ihave F_got_rsR_1 := (bigSepL_wrap (fun k : Fin 32 => gotRsR m c 1 k) 0) $$ P148
  ihave F_got_rsR_1 := (bigSepL_snoc (fun k : Fin 32 => gotRsR m c 1 k) [0] 1 [0, 1] rfl) $$ [F_got_rsR_1 P149]
  · isplitl [F_got_rsR_1] <;> iassumption
  ihave F_got_rsR_1 := (bigSepL_snoc (fun k : Fin 32 => gotRsR m c 1 k) [0, 1] 2 [0, 1, 2] rfl) $$ [F_got_rsR_1 P150]
  · isplitl [F_got_rsR_1] <;> iassumption
  ihave F_got_rsR_1 := (bigSepL_snoc (fun k : Fin 32 => gotRsR m c 1 k) [0, 1, 2] 3 [0, 1, 2, 3] rfl) $$ [F_got_rsR_1 P151]
  · isplitl [F_got_rsR_1] <;> iassumption
  ihave F_got_rsR_1 := (bigSepL_snoc (fun k : Fin 32 => gotRsR m c 1 k) [0, 1, 2, 3] 4 [0, 1, 2, 3, 4] rfl) $$ [F_got_rsR_1 P152]
  · isplitl [F_got_rsR_1] <;> iassumption
  ihave F_got_rsR_1 := (bigSepL_snoc (fun k : Fin 32 => gotRsR m c 1 k) [0, 1, 2, 3, 4] 5 [0, 1, 2, 3, 4, 5] rfl) $$ [F_got_rsR_1 P153]
  · isplitl [F_got_rsR_1] <;> iassumption
  ihave F_got_rsR_1 := (bigSepL_snoc (fun k : Fin 32 => gotRsR m c 1 k) [0, 1, 2, 3, 4, 5] 6 [0, 1, 2, 3, 4, 5, 6] rfl) $$ [F_got_rsR_1 P154]
  · isplitl [F_got_rsR_1] <;> iassumption
  ihave F_got_rsR_1 := (bigSepL_snoc (fun k : Fin 32 => gotRsR m c 1 k) [0, 1, 2, 3, 4, 5, 6] 7 [0, 1, 2, 3, 4, 5, 6, 7] rfl) $$ [F_got_rsR_1 P155]
  · isplitl [F_got_rsR_1] <;> iassumption
  ihave F_got_rsR_1 := (bigSepL_snoc (fun k : Fin 32 => gotRsR m c 1 k) [0, 1, 2, 3, 4, 5, 6, 7] 8 [0, 1, 2, 3, 4, 5, 6, 7, 8] rfl) $$ [F_got_rsR_1 P156]
  · isplitl [F_got_rsR_1] <;> iassumption
  ihave F_got_rsR_1 := (bigSepL_snoc (fun k : Fin 32 => gotRsR m c 1 k) [0, 1, 2, 3, 4, 5, 6, 7, 8] 9 [0, 1, 2, 3, 4, 5, 6, 7, 8, 9] rfl) $$ [F_got_rsR_1 P157]
  · isplitl [F_got_rsR_1] <;> iassumption
  ihave F_got_rsR_1 := (bigSepL_snoc (fun k : Fin 32 => gotRsR m c 1 k) [0, 1, 2, 3, 4, 5, 6, 7, 8, 9] 10 [0, 1, 2, 3, 4, 5, 6, 7, 8, 9, 10] rfl) $$ [F_got_rsR_1 P158]
  · isplitl [F_got_rsR_1] <;> iassumption
  ihave F_got_rsR_1 := (bigSepL_snoc (fun k : Fin 32 => gotRsR m c 1 k) [0, 1, 2, 3, 4, 5, 6, 7, 8, 9, 10] 11 [0, 1, 2, 3, 4, 5, 6, 7, 8, 9, 10, 11] rfl) $$ [F_got_rsR_1 P159]
  · isplitl [F_got_rsR_1] <;> iassumption
  ihave F_got_rsR_1 := (bigSepL_snoc (fun k : Fin 32 => gotRsR m c 1 k) [0, 1, 2, 3, 4, 5, 6, 7, 8, 9, 10, 11] 12 [0, 1, 2, 3, 4, 5, 6, 7, 8, 9, 10, 11, 12] rfl) $$ [F_got_rsR_1 P160]
  · isplitl [F_got_rsR_1] <;> iassumption
  ihave F_got_rsR_1 := (bigSepL_snoc (fun k : Fin 32 => gotRsR m c 1 k) [0, 1, 2, 3, 4, 5, 6, 7, 8, 9, 10, 11, 12] 13 [0, 1, 2, 3, 4, 5, 6, 7, 8, 9, 10, 11, 12, 13] rfl) $$ [F_got_rsR_1 P161]
  · isplitl [F_got_rsR_1] <;> iassumption
  ihave F_got_rsR_1 := (bigSepL_snoc (fun k : Fin 32 => gotRsR m c 1 k) [0, 1, 2, 3, 4, 5, 6, 7, 8, 9, 10, 11, 12, 13] 14 [0, 1, 2, 3, 4, 5, 6, 7, 8, 9, 10, 11, 12, 13, 14] rfl) $$ [F_got_rsR_1 P162]
  · isplitl [F_got_rsR_1] <;> iassumption
  ihave F_got_rsR_1 := (bigSepL_snoc (fun k : Fin 32 => gotRsR m c 1 k) [0, 1, 2, 3, 4, 5, 6, 7, 8, 9, 10, 11, 12, 13, 14] 15 [0, 1, 2, 3, 4, 5, 6, 7, 8, 9, 10, 11, 12, 13, 14, 15] rfl) $$ [F_got_rsR_1 P163]
  · isplitl [F_got_rsR_1] <;> iassumption
  ihave F_got_rsR_1 := (bigSepL_snoc (fun k : Fin 32 => gotRsR m c 1 k) [0, 1, 2, 3, 4, 5, 6, 7, 8, 9, 10, 11, 12, 13, 14, 15] 16 [0, 1, 2, 3, 4, 5, 6, 7, 8, 9, 10, 11, 12, 13, 14, 15, 16] rfl) $$ [F_got_rsR_1 P164]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16] 17 [0, 1, 2, 3, 4, 5, 6, 7, 8, 9, 10, 11, 12, 13, 14, 15, 16, 17] rfl) $$ [F_got_rsR_1 P165]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17] 18 [0, 1, 2, 3, 4, 5, 6, 7, 8, 9, 10, 11, 12, 13, 14, 15, 16, 17, 18] rfl) $$ [F_got_rsR_1 P166]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18] 19 [0, 1, 2, 3, 4, 5, 6, 7, 8, 9, 10, 11, 12, 13, 14, 15, 16, 17, 18, 19] rfl) $$ [F_got_rsR_1 P167]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19] 20 [0, 1, 2, 3, 4, 5, 6, 7, 8, 9, 10, 11, 12, 13, 14, 15, 16, 17, 18, 19, 20] rfl) $$ [F_got_rsR_1 P168]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20] 21 [0, 1, 2, 3, 4, 5, 6, 7, 8, 9, 10, 11, 12, 13, 14, 15, 16, 17, 18, 19, 20, 21] rfl) $$ [F_got_rsR_1 P169]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21] 22 [0, 1, 2, 3, 4, 5, 6, 7, 8, 9, 10, 11, 12, 13, 14, 15, 16, 17, 18, 19, 20, 21, 22] rfl) $$ [F_got_rsR_1 P170]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22] 23 [0, 1, 2, 3, 4, 5, 6, 7, 8, 9, 10, 11, 12, 13, 14, 15, 16, 17, 18, 19, 20, 21, 22, 23] rfl) $$ [F_got_rsR_1 P171]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23] 24 [0, 1, 2, 3, 4, 5, 6, 7, 8, 9, 10, 11, 12, 13, 14, 15, 16, 17, 18, 19, 20, 21, 22, 23, 24] rfl) $$ [F_got_rsR_1 P172]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24] 25 [0, 1, 2, 3, 4, 5, 6, 7, 8, 9, 10, 11, 12, 13, 14, 15, 16, 17, 18, 19, 20, 21, 22, 23, 24, 25] rfl) $$ [F_got_rsR_1 P173]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25] 26 [0, 1, 2, 3, 4, 5, 6, 7, 8, 9, 10, 11, 12, 13, 14, 15, 16, 17, 18, 19, 20, 21, 22, 23, 24, 25, 26] rfl) $$ [F_got_rsR_1 P174]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25, 26] 27 [0, 1, 2, 3, 4, 5, 6, 7, 8, 9, 10, 11, 12, 13, 14, 15, 16, 17, 18, 19, 20, 21, 22, 23, 24, 25, 26, 27] rfl) $$ [F_got_rsR_1 P175]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25, 26, 27] 28 [0, 1, 2, 3, 4, 5, 6, 7, 8, 9, 10, 11, 12, 13, 14, 15, 16, 17, 18, 19, 20, 21, 22, 23, 24, 25, 26, 27, 28] rfl) $$ [F_got_rsR_1 P176]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25, 26, 27, 28] 29 [0, 1, 2, 3, 4, 5, 6, 7, 8, 9, 10, 11, 12, 13, 14, 15, 16, 17, 18, 19, 20, 21, 22, 23, 24, 25, 26, 27, 28, 29] rfl) $$ [F_got_rsR_1 P177]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25, 26, 27, 28, 29] 30 [0, 1, 2, 3, 4, 5, 6, 7, 8, 9, 10, 11, 12, 13, 14, 15, 16, 17, 18, 19, 20, 21, 22, 23, 24, 25, 26, 27, 28, 29, 30] rfl) $$ [F_got_rsR_1 P178]
  · isplitl [F_got_rsR_1] <;> iassumption
  ihave F_got_rsR_1 := (bigSepL_snoc (fun k : Fin 32 => gotRsR m c 1 k) [0, 1, 2, 3, 4, 5, 6, 7, 8, 9, 10, 11, 12, 13, 14, 15, 16, 17, 18, 19, 20, 21, 22, 23, 24, 25, 26, 27, 28, 29, 30] 31 [0, 1, 2, 3, 4, 5, 6, 7, 8, 9, 10, 11, 12, 13, 14, 15, 16, 17, 18, 19, 20, 21, 22, 23, 24, 25, 26, 27, 28, 29, 30, 31] rfl) $$ [F_got_rsR_1 P179]
  · isplitl [F_got_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_closed_rsR_1 P180]
  · isplitl [F_closed_rsR_1] <;> iassumption
  ihave F_closed_rsR_1 := (bigSepL_snoc (fun k : Fin 32 => closedAt m K c 1 k rsR) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_closed_rsR_1 P181]
  · isplitl [F_closed_rsR_1] <;> iassumption
  -- k0_part79
  ihave T182 := (bigSepL_one (fun k : Fin 32 => outAt c 1 k fo) 0) $$ F_out0_1
  icases (bigSepL_pop (fun k : Fin 32 => copyRes m K agS agR c 1 k) 1 2 [3, 4, 5, 6, 7, 8, 9, 10, 11, 12, 13, 14, 15, 16, 17, 18, 19, 20, 21, 22, 23, 24, 25, 26, 27, 28, 29, 30, 31]) $$ F_copyRes_agS_1 with ⟨T183, F_copyRes_agS_1⟩
  icases (bigSepL_pop (fun k : Fin 32 => peerOutAt c 1 k) 1 2 [3, 4, 5, 6, 7, 8, 9, 10, 11, 12, 13, 14, 15, 16, 17, 18, 19, 20, 21, 22, 23, 24, 25, 26, 27, 28, 29, 30, 31]) $$ F_peerOut_1 with ⟨T184, F_peerOut_1⟩
  rw [owed_step_124 c]
  rw [wp_bind]
  iapply (part79_spec' m K c _ fo (owedAfter c 125) (insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))
  isplitl [T182]
  · iexact T182
  isplitl [T183]
  · iexact T183
  isplitl [T184]
  · iexact T184
  isplitl [H_owes]
  · iexact H_owes
  iintro %r ⟨P185, P186, P187, P188, P189, P190, P191, P192, P193, P194, P195, P196, P197, P198, P199, P200, P201, P202, P203, P204, P205, P206, P207, P208, P209, P210, P211, P212, P213, P214, P215, P216, H_owes⟩
  try dsimp only
  ihave F_outShare0_1 := (bigSepL_wrap (fun k : Fin 32 => outShareAt m c 1 k) 0) $$ P185
  ihave F_outShare_1 := (bigSepL_wrap (fun k : Fin 32 => outShareAt m c 1 k) 2) $$ P186
  ihave F_outShare_1 := (bigSepL_snoc (fun k : Fin 32 => outShareAt m c 1 k) [2] 3 [2, 3] rfl) $$ [F_outShare_1 P187]
  · isplitl [F_outShare_1] <;> iassumption
  ihave F_outShare_1 := (bigSepL_snoc (fun k : Fin 32 => outShareAt m c 1 k) [2, 3] 4 [2, 3, 4] rfl) $$ [F_outShare_1 P188]
  · isplitl [F_outShare_1] <;> iassumption
  ihave F_outShare_1 := (bigSepL_snoc (fun k : Fin 32 => outShareAt m c 1 k) [2, 3, 4] 5 [2, 3, 4, 5] rfl) $$ [F_outShare_1 P189]
  · isplitl [F_outShare_1] <;> iassumption
  ihave F_outShare_1 := (bigSepL_snoc (fun k : Fin 32 => outShareAt m c 1 k) [2, 3, 4, 5] 6 [2, 3, 4, 5, 6] rfl) $$ [F_outShare_1 P190]
  · isplitl [F_outShare_1] <;> iassumption
  ihave F_outShare_1 := (bigSepL_snoc (fun k : Fin 32 => outShareAt m c 1 k) [2, 3, 4, 5, 6] 7 [2, 3, 4, 5, 6, 7] rfl) $$ [F_outShare_1 P191]
  · isplitl [F_outShare_1] <;> iassumption
  ihave F_outShare_1 := (bigSepL_snoc (fun k : Fin 32 => outShareAt m c 1 k) [2, 3, 4, 5, 6, 7] 8 [2, 3, 4, 5, 6, 7, 8] rfl) $$ [F_outShare_1 P192]
  · isplitl [F_outShare_1] <;> iassumption
  ihave F_outShare_1 := (bigSepL_snoc (fun k : Fin 32 => outShareAt m c 1 k) [2, 3, 4, 5, 6, 7, 8] 9 [2, 3, 4, 5, 6, 7, 8, 9] rfl) $$ [F_outShare_1 P193]
  · isplitl [F_outShare_1] <;> iassumption
  ihave F_outShare_1 := (bigSepL_snoc (fun k : Fin 32 => outShareAt m c 1 k) [2, 3, 4, 5, 6, 7, 8, 9] 10 [2, 3, 4, 5, 6, 7, 8, 9, 10] rfl) $$ [F_outShare_1 P194]
  · isplitl [F_outShare_1] <;> iassumption
  ihave F_outShare_1 := (bigSepL_snoc (fun k : Fin 32 => outShareAt m c 1 k) [2, 3, 4, 5, 6, 7, 8, 9, 10] 11 [2, 3, 4, 5, 6, 7, 8, 9, 10, 11] rfl) $$ [F_outShare_1 P195]
  · isplitl [F_outShare_1] <;> iassumption
  ihave F_outShare_1 := (bigSepL_snoc (fun k : Fin 32 => outShareAt m c 1 k) [2, 3, 4, 5, 6, 7, 8, 9, 10, 11] 12 [2, 3, 4, 5, 6, 7, 8, 9, 10, 11, 12] rfl) $$ [F_outShare_1 P196]
  · isplitl [F_outShare_1] <;> iassumption
  ihave F_outShare_1 := (bigSepL_snoc (fun k : Fin 32 => outShareAt m c 1 k) [2, 3, 4, 5, 6, 7, 8, 9, 10, 11, 12] 13 [2, 3, 4, 5, 6, 7, 8, 9, 10, 11, 12, 13] rfl) $$ [F_outShare_1 P197]
  · isplitl [F_outShare_1] <;> iassumption
  ihave F_outShare_1 := (bigSepL_snoc (fun k : Fin 32 => outShareAt m c 1 k) [2, 3, 4, 5, 6, 7, 8, 9, 10, 11, 12, 13] 14 [2, 3, 4, 5, 6, 7, 8, 9, 10, 11, 12, 13, 14] rfl) $$ [F_outShare_1 P198]
  · isplitl [F_outShare_1] <;> iassumption
  ihave F_outShare_1 := (bigSepL_snoc (fun k : Fin 32 => outShareAt m c 1 k) [2, 3, 4, 5, 6, 7, 8, 9, 10, 11, 12, 13, 14] 15 [2, 3, 4, 5, 6, 7, 8, 9, 10, 11, 12, 13, 14, 15] rfl) $$ [F_outShare_1 P199]
  · isplitl [F_outShare_1] <;> iassumption
  ihave F_outShare_1 := (bigSepL_snoc (fun k : Fin 32 => outShareAt m c 1 k) [2, 3, 4, 5, 6, 7, 8, 9, 10, 11, 12, 13, 14, 15] 16 [2, 3, 4, 5, 6, 7, 8, 9, 10, 11, 12, 13, 14, 15, 16] rfl) $$ [F_outShare_1 P200]
  · isplitl [F_outShare_1] <;> iassumption
  ihave F_outShare_1 := (bigSepL_snoc (fun k : Fin 32 => outShareAt m c 1 k) [2, 3, 4, 5, 6, 7, 8, 9, 10, 11, 12, 13, 14, 15, 16] 17 [2, 3, 4, 5, 6, 7, 8, 9, 10, 11, 12, 13, 14, 15, 16, 17] rfl) $$ [F_outShare_1 P201]
  · isplitl [F_outShare_1] <;> iassumption
  ihave F_outShare_1 := (bigSepL_snoc (fun k : Fin 32 => outShareAt m c 1 k) [2, 3, 4, 5, 6, 7, 8, 9, 10, 11, 12, 13, 14, 15, 16, 17] 18 [2, 3, 4, 5, 6, 7, 8, 9, 10, 11, 12, 13, 14, 15, 16, 17, 18] rfl) $$ [F_outShare_1 P202]
  · isplitl [F_outShare_1] <;> iassumption
  ihave F_outShare_1 := (bigSepL_snoc (fun k : Fin 32 => outShareAt m c 1 k) [2, 3, 4, 5, 6, 7, 8, 9, 10, 11, 12, 13, 14, 15, 16, 17, 18] 19 [2, 3, 4, 5, 6, 7, 8, 9, 10, 11, 12, 13, 14, 15, 16, 17, 18, 19] rfl) $$ [F_outShare_1 P203]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19] 20 [2, 3, 4, 5, 6, 7, 8, 9, 10, 11, 12, 13, 14, 15, 16, 17, 18, 19, 20] rfl) $$ [F_outShare_1 P204]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20] 21 [2, 3, 4, 5, 6, 7, 8, 9, 10, 11, 12, 13, 14, 15, 16, 17, 18, 19, 20, 21] rfl) $$ [F_outShare_1 P205]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21] 22 [2, 3, 4, 5, 6, 7, 8, 9, 10, 11, 12, 13, 14, 15, 16, 17, 18, 19, 20, 21, 22] rfl) $$ [F_outShare_1 P206]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22] 23 [2, 3, 4, 5, 6, 7, 8, 9, 10, 11, 12, 13, 14, 15, 16, 17, 18, 19, 20, 21, 22, 23] rfl) $$ [F_outShare_1 P207]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22, 23] 24 [2, 3, 4, 5, 6, 7, 8, 9, 10, 11, 12, 13, 14, 15, 16, 17, 18, 19, 20, 21, 22, 23, 24] rfl) $$ [F_outShare_1 P208]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22, 23, 24] 25 [2, 3, 4, 5, 6, 7, 8, 9, 10, 11, 12, 13, 14, 15, 16, 17, 18, 19, 20, 21, 22, 23, 24, 25] rfl) $$ [F_outShare_1 P209]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22, 23, 24, 25] 26 [2, 3, 4, 5, 6, 7, 8, 9, 10, 11, 12, 13, 14, 15, 16, 17, 18, 19, 20, 21, 22, 23, 24, 25, 26] rfl) $$ [F_outShare_1 P210]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22, 23, 24, 25, 26] 27 [2, 3, 4, 5, 6, 7, 8, 9, 10, 11, 12, 13, 14, 15, 16, 17, 18, 19, 20, 21, 22, 23, 24, 25, 26, 27] rfl) $$ [F_outShare_1 P211]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22, 23, 24, 25, 26, 27] 28 [2, 3, 4, 5, 6, 7, 8, 9, 10, 11, 12, 13, 14, 15, 16, 17, 18, 19, 20, 21, 22, 23, 24, 25, 26, 27, 28] rfl) $$ [F_outShare_1 P212]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22, 23, 24, 25, 26, 27, 28] 29 [2, 3, 4, 5, 6, 7, 8, 9, 10, 11, 12, 13, 14, 15, 16, 17, 18, 19, 20, 21, 22, 23, 24, 25, 26, 27, 28, 29] rfl) $$ [F_outShare_1 P213]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22, 23, 24, 25, 26, 27, 28, 29] 30 [2, 3, 4, 5, 6, 7, 8, 9, 10, 11, 12, 13, 14, 15, 16, 17, 18, 19, 20, 21, 22, 23, 24, 25, 26, 27, 28, 29, 30] rfl) $$ [F_outShare_1 P214]
  · isplitl [F_outShare_1] <;> iassumption
  ihave F_outShare_1 := (bigSepL_snoc (fun k : Fin 32 => outShareAt m c 1 k) [2, 3, 4, 5, 6, 7, 8, 9, 10, 11, 12, 13, 14, 15, 16, 17, 18, 19, 20, 21, 22, 23, 24, 25, 26, 27, 28, 29, 30] 31 [2, 3, 4, 5, 6, 7, 8, 9, 10, 11, 12, 13, 14, 15, 16, 17, 18, 19, 20, 21, 22, 23, 24, 25, 26, 27, 28, 29, 30, 31] rfl) $$ [F_outShare_1 P215]
  · isplitl [F_outShare_1] <;> iassumption
  ihave F_recvRes_agS_1 := (bigSepL_wrap (fun k : Fin 32 => recvRes m K agS c 1 k) 1) $$ P216
  -- k0_part80
  icases (bigSepL_pop (fun k : Fin 32 => copyRes m K agS agR c 1 k) 2 3 [4, 5, 6, 7, 8, 9, 10, 11, 12, 13, 14, 15, 16, 17, 18, 19, 20, 21, 22, 23, 24, 25, 26, 27, 28, 29, 30, 31]) $$ F_copyRes_agS_1 with ⟨T217, F_copyRes_agS_1⟩
  icases (bigSepL_pop (fun k : Fin 32 => outShareAt m c 1 k) 2 3 [4, 5, 6, 7, 8, 9, 10, 11, 12, 13, 14, 15, 16, 17, 18, 19, 20, 21, 22, 23, 24, 25, 26, 27, 28, 29, 30, 31]) $$ F_outShare_1 with ⟨T218, F_outShare_1⟩
  icases (bigSepL_pop (fun k : Fin 32 => peerOutAt c 1 k) 2 3 [4, 5, 6, 7, 8, 9, 10, 11, 12, 13, 14, 15, 16, 17, 18, 19, 20, 21, 22, 23, 24, 25, 26, 27, 28, 29, 30, 31]) $$ F_peerOut_1 with ⟨T219, F_peerOut_1⟩
  icases (bigSepL_pop (fun k : Fin 32 => copyRes m K agS agR c 1 k) 3 4 [5, 6, 7, 8, 9, 10, 11, 12, 13, 14, 15, 16, 17, 18, 19, 20, 21, 22, 23, 24, 25, 26, 27, 28, 29, 30, 31]) $$ F_copyRes_agS_1 with ⟨T220, F_copyRes_agS_1⟩
  icases (bigSepL_pop (fun k : Fin 32 => outShareAt m c 1 k) 3 4 [5, 6, 7, 8, 9, 10, 11, 12, 13, 14, 15, 16, 17, 18, 19, 20, 21, 22, 23, 24, 25, 26, 27, 28, 29, 30, 31]) $$ F_outShare_1 with ⟨T221, F_outShare_1⟩
  icases (bigSepL_pop (fun k : Fin 32 => peerOutAt c 1 k) 3 4 [5, 6, 7, 8, 9, 10, 11, 12, 13, 14, 15, 16, 17, 18, 19, 20, 21, 22, 23, 24, 25, 26, 27, 28, 29, 30, 31]) $$ F_peerOut_1 with ⟨T222, F_peerOut_1⟩
  icases (bigSepL_pop (fun k : Fin 32 => copyRes m K agS agR c 1 k) 4 5 [6, 7, 8, 9, 10, 11, 12, 13, 14, 15, 16, 17, 18, 19, 20, 21, 22, 23, 24, 25, 26, 27, 28, 29, 30, 31]) $$ F_copyRes_agS_1 with ⟨T223, F_copyRes_agS_1⟩
  icases (bigSepL_pop (fun k : Fin 32 => outShareAt m c 1 k) 4 5 [6, 7, 8, 9, 10, 11, 12, 13, 14, 15, 16, 17, 18, 19, 20, 21, 22, 23, 24, 25, 26, 27, 28, 29, 30, 31]) $$ F_outShare_1 with ⟨T224, F_outShare_1⟩
  icases (bigSepL_pop (fun k : Fin 32 => peerOutAt c 1 k) 4 5 [6, 7, 8, 9, 10, 11, 12, 13, 14, 15, 16, 17, 18, 19, 20, 21, 22, 23, 24, 25, 26, 27, 28, 29, 30, 31]) $$ F_peerOut_1 with ⟨T225, F_peerOut_1⟩
  rw [owed_step_125 c, owed_step_126 c, owed_step_127 c]
  rw [wp_bind]
  iapply (part80_spec' m K c _ (owedAfter c 128) ((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))
  isplitl [T217]
  · iexact T217
  isplitl [T218]
  · iexact T218
  isplitl [T219]
  · iexact T219
  isplitl [T220]
  · iexact T220
  isplitl [T221]
  · iexact T221
  isplitl [T222]
  · iexact T222
  isplitl [T223]
  · iexact T223
  isplitl [T224]
  · iexact T224
  isplitl [T225]
  · iexact T225
  isplitl [H_owes]
  · iexact H_owes
  iintro %r ⟨P226, P227, P228, H_owes⟩
  obtain ⟨v2051, c32_i32_2509⟩ := r
  try dsimp only
  ihave F_recvRes_agS_1 := (bigSepL_snoc (fun k : Fin 32 => recvRes m K agS c 1 k) [1] 2 [1, 2] rfl) $$ [F_recvRes_agS_1 P226]
  · isplitl [F_recvRes_agS_1] <;> iassumption
  ihave F_recvRes_agS_1 := (bigSepL_snoc (fun k : Fin 32 => recvRes m K agS c 1 k) [1, 2] 3 [1, 2, 3] rfl) $$ [F_recvRes_agS_1 P227]
  · isplitl [F_recvRes_agS_1] <;> iassumption
  ihave F_recvRes_agS_1 := (bigSepL_snoc (fun k : Fin 32 => recvRes m K agS c 1 k) [1, 2, 3] 4 [1, 2, 3, 4] rfl) $$ [F_recvRes_agS_1 P228]
  · isplitl [F_recvRes_agS_1] <;> iassumption
  -- k0_part81
  icases (bigSepL_pop (fun k : Fin 32 => copyRes m K agS agR c 1 k) 5 6 [7, 8, 9, 10, 11, 12, 13, 14, 15, 16, 17, 18, 19, 20, 21, 22, 23, 24, 25, 26, 27, 28, 29, 30, 31]) $$ F_copyRes_agS_1 with ⟨T229, F_copyRes_agS_1⟩
  icases (bigSepL_pop (fun k : Fin 32 => outShareAt m c 1 k) 5 6 [7, 8, 9, 10, 11, 12, 13, 14, 15, 16, 17, 18, 19, 20, 21, 22, 23, 24, 25, 26, 27, 28, 29, 30, 31]) $$ F_outShare_1 with ⟨T230, F_outShare_1⟩
  icases (bigSepL_pop (fun k : Fin 32 => peerOutAt c 1 k) 5 6 [7, 8, 9, 10, 11, 12, 13, 14, 15, 16, 17, 18, 19, 20, 21, 22, 23, 24, 25, 26, 27, 28, 29, 30, 31]) $$ F_peerOut_1 with ⟨T231, F_peerOut_1⟩
  icases (bigSepL_pop (fun k : Fin 32 => copyRes m K agS agR c 1 k) 6 7 [8, 9, 10, 11, 12, 13, 14, 15, 16, 17, 18, 19, 20, 21, 22, 23, 24, 25, 26, 27, 28, 29, 30, 31]) $$ F_copyRes_agS_1 with ⟨T232, F_copyRes_agS_1⟩
  icases (bigSepL_pop (fun k : Fin 32 => outShareAt m c 1 k) 6 7 [8, 9, 10, 11, 12, 13, 14, 15, 16, 17, 18, 19, 20, 21, 22, 23, 24, 25, 26, 27, 28, 29, 30, 31]) $$ F_outShare_1 with ⟨T233, F_outShare_1⟩
  icases (bigSepL_pop (fun k : Fin 32 => peerOutAt c 1 k) 6 7 [8, 9, 10, 11, 12, 13, 14, 15, 16, 17, 18, 19, 20, 21, 22, 23, 24, 25, 26, 27, 28, 29, 30, 31]) $$ F_peerOut_1 with ⟨T234, F_peerOut_1⟩
  rw [owed_step_128 c, owed_step_129 c]
  rw [wp_bind]
  iapply (part81_spec' m K c _ _ _ (owedAfter c 130) (((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))
  isplitl [T229]
  · iexact T229
  isplitl [T230]
  · iexact T230
  isplitl [T231]
  · iexact T231
  isplitl [T232]
  · iexact T232
  isplitl [T233]
  · iexact T233
  isplitl [T234]
  · iexact T234
  isplitl [H_owes]
  · iexact H_owes
  iintro %r ⟨P235, P236, H_owes⟩
  try dsimp only
  ihave F_recvRes_agS_1 := (bigSepL_snoc (fun k : Fin 32 => recvRes m K agS c 1 k) [1, 2, 3, 4] 5 [1, 2, 3, 4, 5] rfl) $$ [F_recvRes_agS_1 P235]
  · isplitl [F_recvRes_agS_1] <;> iassumption
  ihave F_recvRes_agS_1 := (bigSepL_snoc (fun k : Fin 32 => recvRes m K agS c 1 k) [1, 2, 3, 4, 5] 6 [1, 2, 3, 4, 5, 6] rfl) $$ [F_recvRes_agS_1 P236]
  · isplitl [F_recvRes_agS_1] <;> iassumption
  -- k0_part82
  icases (bigSepL_pop (fun k : Fin 32 => copyRes m K agS agR c 1 k) 7 8 [9, 10, 11, 12, 13, 14, 15, 16, 17, 18, 19, 20, 21, 22, 23, 24, 25, 26, 27, 28, 29, 30, 31]) $$ F_copyRes_agS_1 with ⟨T237, F_copyRes_agS_1⟩
  icases (bigSepL_pop (fun k : Fin 32 => outShareAt m c 1 k) 7 8 [9, 10, 11, 12, 13, 14, 15, 16, 17, 18, 19, 20, 21, 22, 23, 24, 25, 26, 27, 28, 29, 30, 31]) $$ F_outShare_1 with ⟨T238, F_outShare_1⟩
  icases (bigSepL_pop (fun k : Fin 32 => peerOutAt c 1 k) 7 8 [9, 10, 11, 12, 13, 14, 15, 16, 17, 18, 19, 20, 21, 22, 23, 24, 25, 26, 27, 28, 29, 30, 31]) $$ F_peerOut_1 with ⟨T239, F_peerOut_1⟩
  icases (bigSepL_pop (fun k : Fin 32 => copyRes m K agS agR c 1 k) 8 9 [10, 11, 12, 13, 14, 15, 16, 17, 18, 19, 20, 21, 22, 23, 24, 25, 26, 27, 28, 29, 30, 31]) $$ F_copyRes_agS_1 with ⟨T240, F_copyRes_agS_1⟩
  icases (bigSepL_pop (fun k : Fin 32 => outShareAt m c 1 k) 8 9 [10, 11, 12, 13, 14, 15, 16, 17, 18, 19, 20, 21, 22, 23, 24, 25, 26, 27, 28, 29, 30, 31]) $$ F_outShare_1 with ⟨T241, F_outShare_1⟩
  icases (bigSepL_pop (fun k : Fin 32 => peerOutAt c 1 k) 8 9 [10, 11, 12, 13, 14, 15, 16, 17, 18, 19, 20, 21, 22, 23, 24, 25, 26, 27, 28, 29, 30, 31]) $$ F_peerOut_1 with ⟨T242, F_peerOut_1⟩
  icases (bigSepL_pop (fun k : Fin 32 => copyRes m K agS agR c 1 k) 9 10 [11, 12, 13, 14, 15, 16, 17, 18, 19, 20, 21, 22, 23, 24, 25, 26, 27, 28, 29, 30, 31]) $$ F_copyRes_agS_1 with ⟨T243, F_copyRes_agS_1⟩
  icases (bigSepL_pop (fun k : Fin 32 => outShareAt m c 1 k) 9 10 [11, 12, 13, 14, 15, 16, 17, 18, 19, 20, 21, 22, 23, 24, 25, 26, 27, 28, 29, 30, 31]) $$ F_outShare_1 with ⟨T244, F_outShare_1⟩
  icases (bigSepL_pop (fun k : Fin 32 => peerOutAt c 1 k) 9 10 [11, 12, 13, 14, 15, 16, 17, 18, 19, 20, 21, 22, 23, 24, 25, 26, 27, 28, 29, 30, 31]) $$ F_peerOut_1 with ⟨T245, F_peerOut_1⟩
  rw [owed_step_130 c, owed_step_131 c, owed_step_132 c]
  rw [wp_bind]
  iapply (part82_spec' m K c _ (owedAfter c 133) ((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))
  isplitl [T237]
  · iexact T237
  isplitl [T238]
  · iexact T238
  isplitl [T239]
  · iexact T239
  isplitl [T240]
  · iexact T240
  isplitl [T241]
  · iexact T241
  isplitl [T242]
  · iexact T242
  isplitl [T243]
  · iexact T243
  isplitl [T244]
  · iexact T244
  isplitl [T245]
  · iexact T245
  isplitl [H_owes]
  · iexact H_owes
  iintro %v2110 ⟨P246, P247, P248, H_owes⟩
  try dsimp only
  ihave F_recvRes_agS_1 := (bigSepL_snoc (fun k : Fin 32 => recvRes m K agS c 1 k) [1, 2, 3, 4, 5, 6] 7 [1, 2, 3, 4, 5, 6, 7] rfl) $$ [F_recvRes_agS_1 P246]
  · isplitl [F_recvRes_agS_1] <;> iassumption
  ihave F_recvRes_agS_1 := (bigSepL_snoc (fun k : Fin 32 => recvRes m K agS c 1 k) [1, 2, 3, 4, 5, 6, 7] 8 [1, 2, 3, 4, 5, 6, 7, 8] rfl) $$ [F_recvRes_agS_1 P247]
  · isplitl [F_recvRes_agS_1] <;> iassumption
  ihave F_recvRes_agS_1 := (bigSepL_snoc (fun k : Fin 32 => recvRes m K agS c 1 k) [1, 2, 3, 4, 5, 6, 7, 8] 9 [1, 2, 3, 4, 5, 6, 7, 8, 9] rfl) $$ [F_recvRes_agS_1 P248]
  · isplitl [F_recvRes_agS_1] <;> iassumption
  -- k0_part83
  icases (bigSepL_pop (fun k : Fin 32 => copyRes m K agS agR c 1 k) 10 11 [12, 13, 14, 15, 16, 17, 18, 19, 20, 21, 22, 23, 24, 25, 26, 27, 28, 29, 30, 31]) $$ F_copyRes_agS_1 with ⟨T249, F_copyRes_agS_1⟩
  icases (bigSepL_pop (fun k : Fin 32 => outShareAt m c 1 k) 10 11 [12, 13, 14, 15, 16, 17, 18, 19, 20, 21, 22, 23, 24, 25, 26, 27, 28, 29, 30, 31]) $$ F_outShare_1 with ⟨T250, F_outShare_1⟩
  icases (bigSepL_pop (fun k : Fin 32 => peerOutAt c 1 k) 10 11 [12, 13, 14, 15, 16, 17, 18, 19, 20, 21, 22, 23, 24, 25, 26, 27, 28, 29, 30, 31]) $$ F_peerOut_1 with ⟨T251, F_peerOut_1⟩
  icases (bigSepL_pop (fun k : Fin 32 => copyRes m K agS agR c 1 k) 11 12 [13, 14, 15, 16, 17, 18, 19, 20, 21, 22, 23, 24, 25, 26, 27, 28, 29, 30, 31]) $$ F_copyRes_agS_1 with ⟨T252, F_copyRes_agS_1⟩
  icases (bigSepL_pop (fun k : Fin 32 => outShareAt m c 1 k) 11 12 [13, 14, 15, 16, 17, 18, 19, 20, 21, 22, 23, 24, 25, 26, 27, 28, 29, 30, 31]) $$ F_outShare_1 with ⟨T253, F_outShare_1⟩
  icases (bigSepL_pop (fun k : Fin 32 => peerOutAt c 1 k) 11 12 [13, 14, 15, 16, 17, 18, 19, 20, 21, 22, 23, 24, 25, 26, 27, 28, 29, 30, 31]) $$ F_peerOut_1 with ⟨T254, F_peerOut_1⟩
  rw [owed_step_133 c, owed_step_134 c]
  rw [wp_bind]
  iapply (part83_spec' m K c _ _ (owedAfter c 135) (((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))
  isplitl [T249]
  · iexact T249
  isplitl [T250]
  · iexact T250
  isplitl [T251]
  · iexact T251
  isplitl [T252]
  · iexact T252
  isplitl [T253]
  · iexact T253
  isplitl [T254]
  · iexact T254
  isplitl [H_owes]
  · iexact H_owes
  iintro %v2135 ⟨P255, P256, H_owes⟩
  try dsimp only
  ihave F_recvRes_agS_1 := (bigSepL_snoc (fun k : Fin 32 => recvRes m K agS c 1 k) [1, 2, 3, 4, 5, 6, 7, 8, 9] 10 [1, 2, 3, 4, 5, 6, 7, 8, 9, 10] rfl) $$ [F_recvRes_agS_1 P255]
  · isplitl [F_recvRes_agS_1] <;> iassumption
  ihave F_recvRes_agS_1 := (bigSepL_snoc (fun k : Fin 32 => recvRes m K agS c 1 k) [1, 2, 3, 4, 5, 6, 7, 8, 9, 10] 11 [1, 2, 3, 4, 5, 6, 7, 8, 9, 10, 11] rfl) $$ [F_recvRes_agS_1 P256]
  · isplitl [F_recvRes_agS_1] <;> iassumption
  -- k0_part84
  icases (bigSepL_pop (fun k : Fin 32 => copyRes m K agS agR c 1 k) 12 13 [14, 15, 16, 17, 18, 19, 20, 21, 22, 23, 24, 25, 26, 27, 28, 29, 30, 31]) $$ F_copyRes_agS_1 with ⟨T257, F_copyRes_agS_1⟩
  icases (bigSepL_pop (fun k : Fin 32 => outShareAt m c 1 k) 12 13 [14, 15, 16, 17, 18, 19, 20, 21, 22, 23, 24, 25, 26, 27, 28, 29, 30, 31]) $$ F_outShare_1 with ⟨T258, F_outShare_1⟩
  icases (bigSepL_pop (fun k : Fin 32 => peerOutAt c 1 k) 12 13 [14, 15, 16, 17, 18, 19, 20, 21, 22, 23, 24, 25, 26, 27, 28, 29, 30, 31]) $$ F_peerOut_1 with ⟨T259, F_peerOut_1⟩
  icases (bigSepL_pop (fun k : Fin 32 => copyRes m K agS agR c 1 k) 13 14 [15, 16, 17, 18, 19, 20, 21, 22, 23, 24, 25, 26, 27, 28, 29, 30, 31]) $$ F_copyRes_agS_1 with ⟨T260, F_copyRes_agS_1⟩
  icases (bigSepL_pop (fun k : Fin 32 => outShareAt m c 1 k) 13 14 [15, 16, 17, 18, 19, 20, 21, 22, 23, 24, 25, 26, 27, 28, 29, 30, 31]) $$ F_outShare_1 with ⟨T261, F_outShare_1⟩
  icases (bigSepL_pop (fun k : Fin 32 => peerOutAt c 1 k) 13 14 [15, 16, 17, 18, 19, 20, 21, 22, 23, 24, 25, 26, 27, 28, 29, 30, 31]) $$ F_peerOut_1 with ⟨T262, F_peerOut_1⟩
  rw [owed_step_135 c, owed_step_136 c]
  rw [wp_bind]
  iapply (part84_spec' m K c _ _ (owedAfter c 137) ((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))
  isplitl [T257]
  · iexact T257
  isplitl [T258]
  · iexact T258
  isplitl [T259]
  · iexact T259
  isplitl [T260]
  · iexact T260
  isplitl [T261]
  · iexact T261
  isplitl [T262]
  · iexact T262
  isplitl [H_owes]
  · iexact H_owes
  iintro %r ⟨P263, P264, H_owes⟩
  try dsimp only
  ihave F_recvRes_agS_1 := (bigSepL_snoc (fun k : Fin 32 => recvRes m K agS c 1 k) [1, 2, 3, 4, 5, 6, 7, 8, 9, 10, 11] 12 [1, 2, 3, 4, 5, 6, 7, 8, 9, 10, 11, 12] rfl) $$ [F_recvRes_agS_1 P263]
  · isplitl [F_recvRes_agS_1] <;> iassumption
  ihave F_recvRes_agS_1 := (bigSepL_snoc (fun k : Fin 32 => recvRes m K agS c 1 k) [1, 2, 3, 4, 5, 6, 7, 8, 9, 10, 11, 12] 13 [1, 2, 3, 4, 5, 6, 7, 8, 9, 10, 11, 12, 13] rfl) $$ [F_recvRes_agS_1 P264]
  · isplitl [F_recvRes_agS_1] <;> iassumption
  -- k0_part85
  icases (bigSepL_pop (fun k : Fin 32 => copyRes m K agS agR c 1 k) 14 15 [16, 17, 18, 19, 20, 21, 22, 23, 24, 25, 26, 27, 28, 29, 30, 31]) $$ F_copyRes_agS_1 with ⟨T265, F_copyRes_agS_1⟩
  icases (bigSepL_pop (fun k : Fin 32 => outShareAt m c 1 k) 14 15 [16, 17, 18, 19, 20, 21, 22, 23, 24, 25, 26, 27, 28, 29, 30, 31]) $$ F_outShare_1 with ⟨T266, F_outShare_1⟩
  icases (bigSepL_pop (fun k : Fin 32 => peerOutAt c 1 k) 14 15 [16, 17, 18, 19, 20, 21, 22, 23, 24, 25, 26, 27, 28, 29, 30, 31]) $$ F_peerOut_1 with ⟨T267, F_peerOut_1⟩
  icases (bigSepL_pop (fun k : Fin 32 => copyRes m K agS agR c 1 k) 15 16 [17, 18, 19, 20, 21, 22, 23, 24, 25, 26, 27, 28, 29, 30, 31]) $$ F_copyRes_agS_1 with ⟨T268, F_copyRes_agS_1⟩
  icases (bigSepL_pop (fun k : Fin 32 => outShareAt m c 1 k) 15 16 [17, 18, 19, 20, 21, 22, 23, 24, 25, 26, 27, 28, 29, 30, 31]) $$ F_outShare_1 with ⟨T269, F_outShare_1⟩
  icases (bigSepL_pop (fun k : Fin 32 => peerOutAt c 1 k) 15 16 [17, 18, 19, 20, 21, 22, 23, 24, 25, 26, 27, 28, 29, 30, 31]) $$ F_peerOut_1 with ⟨T270, F_peerOut_1⟩
  icases (bigSepL_pop (fun k : Fin 32 => copyRes m K agS agR c 1 k) 16 17 [18, 19, 20, 21, 22, 23, 24, 25, 26, 27, 28, 29, 30, 31]) $$ F_copyRes_agS_1 with ⟨T271, F_copyRes_agS_1⟩
  icases (bigSepL_pop (fun k : Fin 32 => outShareAt m c 1 k) 16 17 [18, 19, 20, 21, 22, 23, 24, 25, 26, 27, 28, 29, 30, 31]) $$ F_outShare_1 with ⟨T272, F_outShare_1⟩
  icases (bigSepL_pop (fun k : Fin 32 => peerOutAt c 1 k) 16 17 [18, 19, 20, 21, 22, 23, 24, 25, 26, 27, 28, 29, 30, 31]) $$ F_peerOut_1 with ⟨T273, F_peerOut_1⟩
  rw [owed_step_137 c, owed_step_138 c, owed_step_139 c]
  rw [wp_bind]
  iapply (part85_spec' m K c _ (owedAfter c 140) (((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))
  isplitl [T265]
  · iexact T265
  isplitl [T266]
  · iexact T266
  isplitl [T267]
  · iexact T267
  isplitl [T268]
  · iexact T268
  isplitl [T269]
  · iexact T269
  isplitl [T270]
  · iexact T270
  isplitl [T271]
  · iexact T271
  isplitl [T272]
  · iexact T272
  isplitl [T273]
  · iexact T273
  isplitl [H_owes]
  · iexact H_owes
  iintro %r ⟨P274, P275, P276, H_owes⟩
  obtain ⟨v2195, c32_i32_2653⟩ := r
  try dsimp only
  ihave F_recvRes_agS_1 := (bigSepL_snoc (fun k : Fin 32 => recvRes m K agS c 1 k) [1, 2, 3, 4, 5, 6, 7, 8, 9, 10, 11, 12, 13] 14 [1, 2, 3, 4, 5, 6, 7, 8, 9, 10, 11, 12, 13, 14] rfl) $$ [F_recvRes_agS_1 P274]
  · isplitl [F_recvRes_agS_1] <;> iassumption
  ihave F_recvRes_agS_1 := (bigSepL_snoc (fun k : Fin 32 => recvRes m K agS c 1 k) [1, 2, 3, 4, 5, 6, 7, 8, 9, 10, 11, 12, 13, 14] 15 [1, 2, 3, 4, 5, 6, 7, 8, 9, 10, 11, 12, 13, 14, 15] rfl) $$ [F_recvRes_agS_1 P275]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15] 16 [1, 2, 3, 4, 5, 6, 7, 8, 9, 10, 11, 12, 13, 14, 15, 16] rfl) $$ [F_recvRes_agS_1 P276]
  · isplitl [F_recvRes_agS_1] <;> iassumption
  -- k0_part86
  icases (bigSepL_pop (fun k : Fin 32 => copyRes m K agS agR c 1 k) 17 18 [19, 20, 21, 22, 23, 24, 25, 26, 27, 28, 29, 30, 31]) $$ F_copyRes_agS_1 with ⟨T277, F_copyRes_agS_1⟩
  icases (bigSepL_pop (fun k : Fin 32 => outShareAt m c 1 k) 17 18 [19, 20, 21, 22, 23, 24, 25, 26, 27, 28, 29, 30, 31]) $$ F_outShare_1 with ⟨T278, F_outShare_1⟩
  icases (bigSepL_pop (fun k : Fin 32 => peerOutAt c 1 k) 17 18 [19, 20, 21, 22, 23, 24, 25, 26, 27, 28, 29, 30, 31]) $$ F_peerOut_1 with ⟨T279, F_peerOut_1⟩
  icases (bigSepL_pop (fun k : Fin 32 => copyRes m K agS agR c 1 k) 18 19 [20, 21, 22, 23, 24, 25, 26, 27, 28, 29, 30, 31]) $$ F_copyRes_agS_1 with ⟨T280, F_copyRes_agS_1⟩
  icases (bigSepL_pop (fun k : Fin 32 => outShareAt m c 1 k) 18 19 [20, 21, 22, 23, 24, 25, 26, 27, 28, 29, 30, 31]) $$ F_outShare_1 with ⟨T281, F_outShare_1⟩
  icases (bigSepL_pop (fun k : Fin 32 => peerOutAt c 1 k) 18 19 [20, 21, 22, 23, 24, 25, 26, 27, 28, 29, 30, 31]) $$ F_peerOut_1 with ⟨T282, F_peerOut_1⟩
  rw [owed_step_140 c, owed_step_141 c]
  rw [wp_bind]
  iapply (part86_spec' m K c _ _ _ (owedAfter c 142) ((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))
  isplitl [T277]
  · iexact T277
  isplitl [T278]
  · iexact T278
  isplitl [T279]
  · iexact T279
  isplitl [T280]
  · iexact T280
  isplitl [T281]
  · iexact T281
  isplitl [T282]
  · iexact T282
  isplitl [H_owes]
  · iexact H_owes
  iintro %r ⟨P283, P284, H_owes⟩
  try dsimp only
  ihave F_recvRes_agS_1 := (bigSepL_snoc (fun k : Fin 32 => recvRes m K agS c 1 k) [1, 2, 3, 4, 5, 6, 7, 8, 9, 10, 11, 12, 13, 14, 15, 16] 17 [1, 2, 3, 4, 5, 6, 7, 8, 9, 10, 11, 12, 13, 14, 15, 16, 17] rfl) $$ [F_recvRes_agS_1 P283]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15, 16, 17] 18 [1, 2, 3, 4, 5, 6, 7, 8, 9, 10, 11, 12, 13, 14, 15, 16, 17, 18] rfl) $$ [F_recvRes_agS_1 P284]
  · isplitl [F_recvRes_agS_1] <;> iassumption
  -- k0_part87
  icases (bigSepL_pop (fun k : Fin 32 => copyRes m K agS agR c 1 k) 19 20 [21, 22, 23, 24, 25, 26, 27, 28, 29, 30, 31]) $$ F_copyRes_agS_1 with ⟨T285, F_copyRes_agS_1⟩
  icases (bigSepL_pop (fun k : Fin 32 => outShareAt m c 1 k) 19 20 [21, 22, 23, 24, 25, 26, 27, 28, 29, 30, 31]) $$ F_outShare_1 with ⟨T286, F_outShare_1⟩
  icases (bigSepL_pop (fun k : Fin 32 => peerOutAt c 1 k) 19 20 [21, 22, 23, 24, 25, 26, 27, 28, 29, 30, 31]) $$ F_peerOut_1 with ⟨T287, F_peerOut_1⟩
  icases (bigSepL_pop (fun k : Fin 32 => copyRes m K agS agR c 1 k) 20 21 [22, 23, 24, 25, 26, 27, 28, 29, 30, 31]) $$ F_copyRes_agS_1 with ⟨T288, F_copyRes_agS_1⟩
  icases (bigSepL_pop (fun k : Fin 32 => outShareAt m c 1 k) 20 21 [22, 23, 24, 25, 26, 27, 28, 29, 30, 31]) $$ F_outShare_1 with ⟨T289, F_outShare_1⟩
  icases (bigSepL_pop (fun k : Fin 32 => peerOutAt c 1 k) 20 21 [22, 23, 24, 25, 26, 27, 28, 29, 30, 31]) $$ F_peerOut_1 with ⟨T290, F_peerOut_1⟩
  icases (bigSepL_pop (fun k : Fin 32 => copyRes m K agS agR c 1 k) 21 22 [23, 24, 25, 26, 27, 28, 29, 30, 31]) $$ F_copyRes_agS_1 with ⟨T291, F_copyRes_agS_1⟩
  icases (bigSepL_pop (fun k : Fin 32 => outShareAt m c 1 k) 21 22 [23, 24, 25, 26, 27, 28, 29, 30, 31]) $$ F_outShare_1 with ⟨T292, F_outShare_1⟩
  icases (bigSepL_pop (fun k : Fin 32 => peerOutAt c 1 k) 21 22 [23, 24, 25, 26, 27, 28, 29, 30, 31]) $$ F_peerOut_1 with ⟨T293, F_peerOut_1⟩
  rw [owed_step_142 c, owed_step_143 c, owed_step_144 c]
  rw [wp_bind]
  iapply (part87_spec' m K c _ (owedAfter c 145) (((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))
  isplitl [T285]
  · iexact T285
  isplitl [T286]
  · iexact T286
  isplitl [T287]
  · iexact T287
  isplitl [T288]
  · iexact T288
  isplitl [T289]
  · iexact T289
  isplitl [T290]
  · iexact T290
  isplitl [T291]
  · iexact T291
  isplitl [T292]
  · iexact T292
  isplitl [T293]
  · iexact T293
  isplitl [H_owes]
  · iexact H_owes
  iintro %v2254 ⟨P294, P295, P296, H_owes⟩
  try dsimp only
  ihave F_recvRes_agS_1 := (bigSepL_snoc (fun k : Fin 32 => recvRes m K agS c 1 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_recvRes_agS_1 P294]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_recvRes_agS_1 P295]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_recvRes_agS_1 P296]
  · isplitl [F_recvRes_agS_1] <;> iassumption
  -- k0_part88
  icases (bigSepL_pop (fun k : Fin 32 => copyRes m K agS agR c 1 k) 22 23 [24, 25, 26, 27, 28, 29, 30, 31]) $$ F_copyRes_agS_1 with ⟨T297, F_copyRes_agS_1⟩
  icases (bigSepL_pop (fun k : Fin 32 => outShareAt m c 1 k) 22 23 [24, 25, 26, 27, 28, 29, 30, 31]) $$ F_outShare_1 with ⟨T298, F_outShare_1⟩
  icases (bigSepL_pop (fun k : Fin 32 => peerOutAt c 1 k) 22 23 [24, 25, 26, 27, 28, 29, 30, 31]) $$ F_peerOut_1 with ⟨T299, F_peerOut_1⟩
  icases (bigSepL_pop (fun k : Fin 32 => copyRes m K agS agR c 1 k) 23 24 [25, 26, 27, 28, 29, 30, 31]) $$ F_copyRes_agS_1 with ⟨T300, F_copyRes_agS_1⟩
  icases (bigSepL_pop (fun k : Fin 32 => outShareAt m c 1 k) 23 24 [25, 26, 27, 28, 29, 30, 31]) $$ F_outShare_1 with ⟨T301, F_outShare_1⟩
  icases (bigSepL_pop (fun k : Fin 32 => peerOutAt c 1 k) 23 24 [25, 26, 27, 28, 29, 30, 31]) $$ F_peerOut_1 with ⟨T302, F_peerOut_1⟩
  rw [owed_step_145 c, owed_step_146 c]
  rw [wp_bind]
  iapply (part88_spec' m K c _ _ (owedAfter c 147) ((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))
  isplitl [T297]
  · iexact T297
  isplitl [T298]
  · iexact T298
  isplitl [T299]
  · iexact T299
  isplitl [T300]
  · iexact T300
  isplitl [T301]
  · iexact T301
  isplitl [T302]
  · iexact T302
  isplitl [H_owes]
  · iexact H_owes
  iintro %v2279 ⟨P303, P304, H_owes⟩
  try dsimp only
  ihave F_recvRes_agS_1 := (bigSepL_snoc (fun k : Fin 32 => recvRes m K agS c 1 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_recvRes_agS_1 P303]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_recvRes_agS_1 P304]
  · isplitl [F_recvRes_agS_1] <;> iassumption
  -- k0_part89
  icases (bigSepL_pop (fun k : Fin 32 => copyRes m K agS agR c 1 k) 24 25 [26, 27, 28, 29, 30, 31]) $$ F_copyRes_agS_1 with ⟨T305, F_copyRes_agS_1⟩
  icases (bigSepL_pop (fun k : Fin 32 => outShareAt m c 1 k) 24 25 [26, 27, 28, 29, 30, 31]) $$ F_outShare_1 with ⟨T306, F_outShare_1⟩
  icases (bigSepL_pop (fun k : Fin 32 => peerOutAt c 1 k) 24 25 [26, 27, 28, 29, 30, 31]) $$ F_peerOut_1 with ⟨T307, F_peerOut_1⟩
  icases (bigSepL_pop (fun k : Fin 32 => copyRes m K agS agR c 1 k) 25 26 [27, 28, 29, 30, 31]) $$ F_copyRes_agS_1 with ⟨T308, F_copyRes_agS_1⟩
  icases (bigSepL_pop (fun k : Fin 32 => outShareAt m c 1 k) 25 26 [27, 28, 29, 30, 31]) $$ F_outShare_1 with ⟨T309, F_outShare_1⟩
  icases (bigSepL_pop (fun k : Fin 32 => peerOutAt c 1 k) 25 26 [27, 28, 29, 30, 31]) $$ F_peerOut_1 with ⟨T310, F_peerOut_1⟩
  rw [owed_step_147 c, owed_step_148 c]
  rw [wp_bind]
  iapply (part89_spec' m K c _ _ (owedAfter c 149) (((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))
  isplitl [T305]
  · iexact T305
  isplitl [T306]
  · iexact T306
  isplitl [T307]
  · iexact T307
  isplitl [T308]
  · iexact T308
  isplitl [T309]
  · iexact T309
  isplitl [T310]
  · iexact T310
  isplitl [H_owes]
  · iexact H_owes
  iintro %r ⟨P311, P312, H_owes⟩
  try dsimp only
  ihave F_recvRes_agS_1 := (bigSepL_snoc (fun k : Fin 32 => recvRes m K agS c 1 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_recvRes_agS_1 P311]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_recvRes_agS_1 P312]
  · isplitl [F_recvRes_agS_1] <;> iassumption
  -- k0_part90
  icases (bigSepL_pop (fun k : Fin 32 => copyRes m K agS agR c 1 k) 26 27 [28, 29, 30, 31]) $$ F_copyRes_agS_1 with ⟨T313, F_copyRes_agS_1⟩
  icases (bigSepL_pop (fun k : Fin 32 => outShareAt m c 1 k) 26 27 [28, 29, 30, 31]) $$ F_outShare_1 with ⟨T314, F_outShare_1⟩
  icases (bigSepL_pop (fun k : Fin 32 => peerOutAt c 1 k) 26 27 [28, 29, 30, 31]) $$ F_peerOut_1 with ⟨T315, F_peerOut_1⟩
  icases (bigSepL_pop (fun k : Fin 32 => copyRes m K agS agR c 1 k) 27 28 [29, 30, 31]) $$ F_copyRes_agS_1 with ⟨T316, F_copyRes_agS_1⟩
  icases (bigSepL_pop (fun k : Fin 32 => outShareAt m c 1 k) 27 28 [29, 30, 31]) $$ F_outShare_1 with ⟨T317, F_outShare_1⟩
  icases (bigSepL_pop (fun k : Fin 32 => peerOutAt c 1 k) 27 28 [29, 30, 31]) $$ F_peerOut_1 with ⟨T318, F_peerOut_1⟩
  icases (bigSepL_pop (fun k : Fin 32 => copyRes m K agS agR c 1 k) 28 29 [30, 31]) $$ F_copyRes_agS_1 with ⟨T319, F_copyRes_agS_1⟩
  icases (bigSepL_pop (fun k : Fin 32 => outShareAt m c 1 k) 28 29 [30, 31]) $$ F_outShare_1 with ⟨T320, F_outShare_1⟩
  icases (bigSepL_pop (fun k : Fin 32 => peerOutAt c 1 k) 28 29 [30, 31]) $$ F_peerOut_1 with ⟨T321, F_peerOut_1⟩
  rw [owed_step_149 c, owed_step_150 c, owed_step_151 c]
  rw [wp_bind]
  iapply (part90_spec' m K c _ (owedAfter c 152) ((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))
  isplitl [T313]
  · iexact T313
  isplitl [T314]
  · iexact T314
  isplitl [T315]
  · iexact T315
  isplitl [T316]
  · iexact T316
  isplitl [T317]
  · iexact T317
  isplitl [T318]
  · iexact T318
  isplitl [T319]
  · iexact T319
  isplitl [T320]
  · iexact T320
  isplitl [T321]
  · iexact T321
  isplitl [H_owes]
  · iexact H_owes
  iintro %r ⟨P322, P323, P324, H_owes⟩
  obtain ⟨v2339, c32_i32_2797⟩ := r
  try dsimp only
  ihave F_recvRes_agS_1 := (bigSepL_snoc (fun k : Fin 32 => recvRes m K agS c 1 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_recvRes_agS_1 P322]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_recvRes_agS_1 P323]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_recvRes_agS_1 P324]
  · isplitl [F_recvRes_agS_1] <;> iassumption
  -- k0_part91
  icases (bigSepL_pop (fun k : Fin 32 => copyRes m K agS agR c 1 k) 29 30 [31]) $$ F_copyRes_agS_1 with ⟨T325, F_copyRes_agS_1⟩
  icases (bigSepL_pop (fun k : Fin 32 => outShareAt m c 1 k) 29 30 [31]) $$ F_outShare_1 with ⟨T326, F_outShare_1⟩
  icases (bigSepL_pop (fun k : Fin 32 => peerOutAt c 1 k) 29 30 [31]) $$ F_peerOut_1 with ⟨T327, F_peerOut_1⟩
  icases (bigSepL_pop (fun k : Fin 32 => copyRes m K agS agR c 1 k) 30 31 []) $$ F_copyRes_agS_1 with ⟨T328, F_copyRes_agS_1⟩
  icases (bigSepL_pop (fun k : Fin 32 => outShareAt m c 1 k) 30 31 []) $$ F_outShare_1 with ⟨T329, F_outShare_1⟩
  icases (bigSepL_pop (fun k : Fin 32 => peerOutAt c 1 k) 30 31 []) $$ F_peerOut_1 with ⟨T330, F_peerOut_1⟩
  rw [owed_step_152 c, owed_step_153 c]
  rw [wp_bind]
  iapply (part91_spec' m K c _ _ _ (owedAfter c 154) (((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))
  isplitl [T325]
  · iexact T325
  isplitl [T326]
  · iexact T326
  isplitl [T327]
  · iexact T327
  isplitl [T328]
  · iexact T328
  isplitl [T329]
  · iexact T329
  isplitl [T330]
  · iexact T330
  isplitl [H_owes]
  · iexact H_owes
  iintro %r ⟨P331, P332, H_owes⟩
  try dsimp only
  ihave F_recvRes_agS_1 := (bigSepL_snoc (fun k : Fin 32 => recvRes m K agS c 1 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_recvRes_agS_1 P331]
  · isplitl [F_recvRes_agS_1] <;> iassumption
  ihave F_recvRes_agS_1 := (bigSepL_snoc (fun k : Fin 32 => recvRes m K agS c 1 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_recvRes_agS_1 P332]
  · isplitl [F_recvRes_agS_1] <;> iassumption
  -- k0_part92
  ihave T333 := (bigSepL_one (fun k : Fin 32 => copyRes m K agS agR c 1 k) 31) $$ F_copyRes_agS_1
  ihave T334 := (bigSepL_one (fun k : Fin 32 => outShareAt m c 1 k) 31) $$ F_outShare_1
  ihave T335 := (bigSepL_one (fun k : Fin 32 => peerOutAt c 1 k) 31) $$ F_peerOut_1
  icases (bigSepL_pop (fun k : Fin 32 => recvRes m K rsS c 0 k) 1 2 [3, 4, 5, 6, 7, 8, 9, 10, 11, 12, 13, 14, 15, 16, 17, 18, 19, 20, 21, 22, 23, 24, 25, 26, 27, 28, 29, 30, 31]) $$ F_recvRes_rsS_0 with ⟨T336, F_recvRes_rsS_0⟩
  icases (bigSepL_pop (fun k : Fin 32 => recvRes m K rsS c 0 k) 2 3 [4, 5, 6, 7, 8, 9, 10, 11, 12, 13, 14, 15, 16, 17, 18, 19, 20, 21, 22, 23, 24, 25, 26, 27, 28, 29, 30, 31]) $$ F_recvRes_rsS_0 with ⟨T337, F_recvRes_rsS_0⟩
  icases (bigSepL_pop (fun k : Fin 32 => recvRes m K rsS c 0 k) 3 4 [5, 6, 7, 8, 9, 10, 11, 12, 13, 14, 15, 16, 17, 18, 19, 20, 21, 22, 23, 24, 25, 26, 27, 28, 29, 30, 31]) $$ F_recvRes_rsS_0 with ⟨T338, F_recvRes_rsS_0⟩
  rw [owed_step_154 c]
  rw [wp_bind]
  iapply (part92_spec' m K c (owedAfter c 155) (mayWait_end (F := F) c (.dma (semAt (arr rsS) 0 1))) (mayWait_end (F := F) c (.dma (semAt (arr rsS) 0 2))) (mayWait_end (F := F) c (.dma (semAt (arr rsS) 0 3))) ((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))
  isplitl [T333]
  · iexact T333
  isplitl [T334]
  · iexact T334
  isplitl [T335]
  · iexact T335
  isplitl [T336]
  · iexact T336
  isplitl [T337]
  · iexact T337
  isplitl [T338]
  · iexact T338
  isplitl []
  · iexact Hlev
  isplitl [H_owes]
  · iexact H_owes
  iintro %r ⟨P339, P340, P341, P342, P343, P344, P345, H_owes⟩
  try dsimp only
  ihave F_recvRes_agS_1 := (bigSepL_snoc (fun k : Fin 32 => recvRes m K agS c 1 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_recvRes_agS_1 P339]
  · isplitl [F_recvRes_agS_1] <;> iassumption
  ihave F_got_rsS_0 := (bigSepL_wrap (fun k : Fin 32 => accSrcAt m c 0 k) 1) $$ P340
  ihave F_closed_rsS_0 := (bigSepL_wrap (fun k : Fin 32 => closedAt m K c 0 k rsS) 1) $$ P341
  ihave F_got_rsS_0 := (bigSepL_snoc (fun k : Fin 32 => accSrcAt m c 0 k) [1] 2 [1, 2] rfl) $$ [F_got_rsS_0 P342]
  · isplitl [F_got_rsS_0] <;> iassumption
  ihave F_closed_rsS_0 := (bigSepL_snoc (fun k : Fin 32 => closedAt m K c 0 k rsS) [1] 2 [1, 2] rfl) $$ [F_closed_rsS_0 P343]
  · isplitl [F_closed_rsS_0] <;> iassumption
  ihave F_got_rsS_0 := (bigSepL_snoc (fun k : Fin 32 => accSrcAt m c 0 k) [1, 2] 3 [1, 2, 3] rfl) $$ [F_got_rsS_0 P344]
  · isplitl [F_got_rsS_0] <;> iassumption
  ihave F_closed_rsS_0 := (bigSepL_snoc (fun k : Fin 32 => closedAt m K c 0 k rsS) [1, 2] 3 [1, 2, 3] rfl) $$ [F_closed_rsS_0 P345]
  · isplitl [F_closed_rsS_0] <;> iassumption
  -- k0_part93
  icases (bigSepL_pop (fun k : Fin 32 => recvRes m K rsS c 0 k) 4 5 [6, 7, 8, 9, 10, 11, 12, 13, 14, 15, 16, 17, 18, 19, 20, 21, 22, 23, 24, 25, 26, 27, 28, 29, 30, 31]) $$ F_recvRes_rsS_0 with ⟨T346, F_recvRes_rsS_0⟩
  icases (bigSepL_pop (fun k : Fin 32 => recvRes m K rsS c 0 k) 5 6 [7, 8, 9, 10, 11, 12, 13, 14, 15, 16, 17, 18, 19, 20, 21, 22, 23, 24, 25, 26, 27, 28, 29, 30, 31]) $$ F_recvRes_rsS_0 with ⟨T347, F_recvRes_rsS_0⟩
  icases (bigSepL_pop (fun k : Fin 32 => recvRes m K rsS c 0 k) 6 7 [8, 9, 10, 11, 12, 13, 14, 15, 16, 17, 18, 19, 20, 21, 22, 23, 24, 25, 26, 27, 28, 29, 30, 31]) $$ F_recvRes_rsS_0 with ⟨T348, F_recvRes_rsS_0⟩
  icases (bigSepL_pop (fun k : Fin 32 => recvRes m K rsS c 0 k) 7 8 [9, 10, 11, 12, 13, 14, 15, 16, 17, 18, 19, 20, 21, 22, 23, 24, 25, 26, 27, 28, 29, 30, 31]) $$ F_recvRes_rsS_0 with ⟨T349, F_recvRes_rsS_0⟩
  rw [wp_bind]
  iapply (part93_spec' m K c (insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))
  isplitl [T346]
  · iexact T346
  isplitl [T347]
  · iexact T347
  isplitl [T348]
  · iexact T348
  isplitl [T349]
  · iexact T349
  isplitl []
  · iexact Hlev
  isplitl [H_owes]
  · iexact H_owes
  iintro %r ⟨P350, P351, P352, P353, P354, P355, P356, P357, H_owes⟩
  try dsimp only
  ihave F_got_rsS_0 := (bigSepL_snoc (fun k : Fin 32 => accSrcAt m c 0 k) [1, 2, 3] 4 [1, 2, 3, 4] rfl) $$ [F_got_rsS_0 P350]
  · isplitl [F_got_rsS_0] <;> iassumption
  ihave F_closed_rsS_0 := (bigSepL_snoc (fun k : Fin 32 => closedAt m K c 0 k rsS) [1, 2, 3] 4 [1, 2, 3, 4] rfl) $$ [F_closed_rsS_0 P351]
  · isplitl [F_closed_rsS_0] <;> iassumption
  ihave F_got_rsS_0 := (bigSepL_snoc (fun k : Fin 32 => accSrcAt m c 0 k) [1, 2, 3, 4] 5 [1, 2, 3, 4, 5] rfl) $$ [F_got_rsS_0 P352]
  · isplitl [F_got_rsS_0] <;> iassumption
  ihave F_closed_rsS_0 := (bigSepL_snoc (fun k : Fin 32 => closedAt m K c 0 k rsS) [1, 2, 3, 4] 5 [1, 2, 3, 4, 5] rfl) $$ [F_closed_rsS_0 P353]
  · isplitl [F_closed_rsS_0] <;> iassumption
  ihave F_got_rsS_0 := (bigSepL_snoc (fun k : Fin 32 => accSrcAt m c 0 k) [1, 2, 3, 4, 5] 6 [1, 2, 3, 4, 5, 6] rfl) $$ [F_got_rsS_0 P354]
  · isplitl [F_got_rsS_0] <;> iassumption
  ihave F_closed_rsS_0 := (bigSepL_snoc (fun k : Fin 32 => closedAt m K c 0 k rsS) [1, 2, 3, 4, 5] 6 [1, 2, 3, 4, 5, 6] rfl) $$ [F_closed_rsS_0 P355]
  · isplitl [F_closed_rsS_0] <;> iassumption
  ihave F_got_rsS_0 := (bigSepL_snoc (fun k : Fin 32 => accSrcAt m c 0 k) [1, 2, 3, 4, 5, 6] 7 [1, 2, 3, 4, 5, 6, 7] rfl) $$ [F_got_rsS_0 P356]
  · isplitl [F_got_rsS_0] <;> iassumption
  ihave F_closed_rsS_0 := (bigSepL_snoc (fun k : Fin 32 => closedAt m K c 0 k rsS) [1, 2, 3, 4, 5, 6] 7 [1, 2, 3, 4, 5, 6, 7] rfl) $$ [F_closed_rsS_0 P357]
  · isplitl [F_closed_rsS_0] <;> iassumption
  -- k0_part94
  icases (bigSepL_pop (fun k : Fin 32 => recvRes m K rsS c 0 k) 8 9 [10, 11, 12, 13, 14, 15, 16, 17, 18, 19, 20, 21, 22, 23, 24, 25, 26, 27, 28, 29, 30, 31]) $$ F_recvRes_rsS_0 with ⟨T358, F_recvRes_rsS_0⟩
  icases (bigSepL_pop (fun k : Fin 32 => recvRes m K rsS c 0 k) 9 10 [11, 12, 13, 14, 15, 16, 17, 18, 19, 20, 21, 22, 23, 24, 25, 26, 27, 28, 29, 30, 31]) $$ F_recvRes_rsS_0 with ⟨T359, F_recvRes_rsS_0⟩
  icases (bigSepL_pop (fun k : Fin 32 => recvRes m K rsS c 0 k) 10 11 [12, 13, 14, 15, 16, 17, 18, 19, 20, 21, 22, 23, 24, 25, 26, 27, 28, 29, 30, 31]) $$ F_recvRes_rsS_0 with ⟨T360, F_recvRes_rsS_0⟩
  rw [wp_bind]
  iapply (part94_spec' m K c (insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))
  isplitl [T358]
  · iexact T358
  isplitl [T359]
  · iexact T359
  isplitl [T360]
  · iexact T360
  isplitl []
  · iexact Hlev
  isplitl [H_owes]
  · iexact H_owes
  iintro %r ⟨P361, P362, P363, P364, P365, P366, H_owes⟩
  try dsimp only
  ihave F_got_rsS_0 := (bigSepL_snoc (fun k : Fin 32 => accSrcAt m c 0 k) [1, 2, 3, 4, 5, 6, 7] 8 [1, 2, 3, 4, 5, 6, 7, 8] rfl) $$ [F_got_rsS_0 P361]
  · isplitl [F_got_rsS_0] <;> iassumption
  ihave F_closed_rsS_0 := (bigSepL_snoc (fun k : Fin 32 => closedAt m K c 0 k rsS) [1, 2, 3, 4, 5, 6, 7] 8 [1, 2, 3, 4, 5, 6, 7, 8] rfl) $$ [F_closed_rsS_0 P362]
  · isplitl [F_closed_rsS_0] <;> iassumption
  ihave F_got_rsS_0 := (bigSepL_snoc (fun k : Fin 32 => accSrcAt m c 0 k) [1, 2, 3, 4, 5, 6, 7, 8] 9 [1, 2, 3, 4, 5, 6, 7, 8, 9] rfl) $$ [F_got_rsS_0 P363]
  · isplitl [F_got_rsS_0] <;> iassumption
  ihave F_closed_rsS_0 := (bigSepL_snoc (fun k : Fin 32 => closedAt m K c 0 k rsS) [1, 2, 3, 4, 5, 6, 7, 8] 9 [1, 2, 3, 4, 5, 6, 7, 8, 9] rfl) $$ [F_closed_rsS_0 P364]
  · isplitl [F_closed_rsS_0] <;> iassumption
  ihave F_got_rsS_0 := (bigSepL_snoc (fun k : Fin 32 => accSrcAt m c 0 k) [1, 2, 3, 4, 5, 6, 7, 8, 9] 10 [1, 2, 3, 4, 5, 6, 7, 8, 9, 10] rfl) $$ [F_got_rsS_0 P365]
  · isplitl [F_got_rsS_0] <;> iassumption
  ihave F_closed_rsS_0 := (bigSepL_snoc (fun k : Fin 32 => closedAt m K c 0 k rsS) [1, 2, 3, 4, 5, 6, 7, 8, 9] 10 [1, 2, 3, 4, 5, 6, 7, 8, 9, 10] rfl) $$ [F_closed_rsS_0 P366]
  · isplitl [F_closed_rsS_0] <;> iassumption
  -- k0_part95
  icases (bigSepL_pop (fun k : Fin 32 => recvRes m K rsS c 0 k) 11 12 [13, 14, 15, 16, 17, 18, 19, 20, 21, 22, 23, 24, 25, 26, 27, 28, 29, 30, 31]) $$ F_recvRes_rsS_0 with ⟨T367, F_recvRes_rsS_0⟩
  icases (bigSepL_pop (fun k : Fin 32 => recvRes m K rsS c 0 k) 12 13 [14, 15, 16, 17, 18, 19, 20, 21, 22, 23, 24, 25, 26, 27, 28, 29, 30, 31]) $$ F_recvRes_rsS_0 with ⟨T368, F_recvRes_rsS_0⟩
  icases (bigSepL_pop (fun k : Fin 32 => recvRes m K rsS c 0 k) 13 14 [15, 16, 17, 18, 19, 20, 21, 22, 23, 24, 25, 26, 27, 28, 29, 30, 31]) $$ F_recvRes_rsS_0 with ⟨T369, F_recvRes_rsS_0⟩
  icases (bigSepL_pop (fun k : Fin 32 => recvRes m K rsS c 0 k) 14 15 [16, 17, 18, 19, 20, 21, 22, 23, 24, 25, 26, 27, 28, 29, 30, 31]) $$ F_recvRes_rsS_0 with ⟨T370, F_recvRes_rsS_0⟩
  rw [wp_bind]
  iapply (part95_spec' m K c (insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))
  isplitl [T367]
  · iexact T367
  isplitl [T368]
  · iexact T368
  isplitl [T369]
  · iexact T369
  isplitl [T370]
  · iexact T370
  isplitl []
  · iexact Hlev
  isplitl [H_owes]
  · iexact H_owes
  iintro %r ⟨P371, P372, P373, P374, P375, P376, P377, P378, H_owes⟩
  try dsimp only
  ihave F_got_rsS_0 := (bigSepL_snoc (fun k : Fin 32 => accSrcAt m c 0 k) [1, 2, 3, 4, 5, 6, 7, 8, 9, 10] 11 [1, 2, 3, 4, 5, 6, 7, 8, 9, 10, 11] rfl) $$ [F_got_rsS_0 P371]
  · isplitl [F_got_rsS_0] <;> iassumption
  ihave F_closed_rsS_0 := (bigSepL_snoc (fun k : Fin 32 => closedAt m K c 0 k rsS) [1, 2, 3, 4, 5, 6, 7, 8, 9, 10] 11 [1, 2, 3, 4, 5, 6, 7, 8, 9, 10, 11] rfl) $$ [F_closed_rsS_0 P372]
  · isplitl [F_closed_rsS_0] <;> iassumption
  ihave F_got_rsS_0 := (bigSepL_snoc (fun k : Fin 32 => accSrcAt m c 0 k) [1, 2, 3, 4, 5, 6, 7, 8, 9, 10, 11] 12 [1, 2, 3, 4, 5, 6, 7, 8, 9, 10, 11, 12] rfl) $$ [F_got_rsS_0 P373]
  · isplitl [F_got_rsS_0] <;> iassumption
  ihave F_closed_rsS_0 := (bigSepL_snoc (fun k : Fin 32 => closedAt m K c 0 k rsS) [1, 2, 3, 4, 5, 6, 7, 8, 9, 10, 11] 12 [1, 2, 3, 4, 5, 6, 7, 8, 9, 10, 11, 12] rfl) $$ [F_closed_rsS_0 P374]
  · isplitl [F_closed_rsS_0] <;> iassumption
  ihave F_got_rsS_0 := (bigSepL_snoc (fun k : Fin 32 => accSrcAt m c 0 k) [1, 2, 3, 4, 5, 6, 7, 8, 9, 10, 11, 12] 13 [1, 2, 3, 4, 5, 6, 7, 8, 9, 10, 11, 12, 13] rfl) $$ [F_got_rsS_0 P375]
  · isplitl [F_got_rsS_0] <;> iassumption
  ihave F_closed_rsS_0 := (bigSepL_snoc (fun k : Fin 32 => closedAt m K c 0 k rsS) [1, 2, 3, 4, 5, 6, 7, 8, 9, 10, 11, 12] 13 [1, 2, 3, 4, 5, 6, 7, 8, 9, 10, 11, 12, 13] rfl) $$ [F_closed_rsS_0 P376]
  · isplitl [F_closed_rsS_0] <;> iassumption
  ihave F_got_rsS_0 := (bigSepL_snoc (fun k : Fin 32 => accSrcAt m c 0 k) [1, 2, 3, 4, 5, 6, 7, 8, 9, 10, 11, 12, 13] 14 [1, 2, 3, 4, 5, 6, 7, 8, 9, 10, 11, 12, 13, 14] rfl) $$ [F_got_rsS_0 P377]
  · isplitl [F_got_rsS_0] <;> iassumption
  ihave F_closed_rsS_0 := (bigSepL_snoc (fun k : Fin 32 => closedAt m K c 0 k rsS) [1, 2, 3, 4, 5, 6, 7, 8, 9, 10, 11, 12, 13] 14 [1, 2, 3, 4, 5, 6, 7, 8, 9, 10, 11, 12, 13, 14] rfl) $$ [F_closed_rsS_0 P378]
  · isplitl [F_closed_rsS_0] <;> iassumption
  -- k0_part96
  icases (bigSepL_pop (fun k : Fin 32 => recvRes m K rsS c 0 k) 15 16 [17, 18, 19, 20, 21, 22, 23, 24, 25, 26, 27, 28, 29, 30, 31]) $$ F_recvRes_rsS_0 with ⟨T379, F_recvRes_rsS_0⟩
  icases (bigSepL_pop (fun k : Fin 32 => recvRes m K rsS c 0 k) 16 17 [18, 19, 20, 21, 22, 23, 24, 25, 26, 27, 28, 29, 30, 31]) $$ F_recvRes_rsS_0 with ⟨T380, F_recvRes_rsS_0⟩
  icases (bigSepL_pop (fun k : Fin 32 => recvRes m K rsS c 0 k) 17 18 [19, 20, 21, 22, 23, 24, 25, 26, 27, 28, 29, 30, 31]) $$ F_recvRes_rsS_0 with ⟨T381, F_recvRes_rsS_0⟩
  icases (bigSepL_pop (fun k : Fin 32 => recvRes m K rsS c 0 k) 18 19 [20, 21, 22, 23, 24, 25, 26, 27, 28, 29, 30, 31]) $$ F_recvRes_rsS_0 with ⟨T382, F_recvRes_rsS_0⟩
  rw [wp_bind]
  iapply (part96_spec' m K c (insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))
  isplitl [T379]
  · iexact T379
  isplitl [T380]
  · iexact T380
  isplitl [T381]
  · iexact T381
  isplitl [T382]
  · iexact T382
  isplitl []
  · iexact Hlev
  isplitl [H_owes]
  · iexact H_owes
  iintro %r ⟨P383, P384, P385, P386, P387, P388, P389, P390, H_owes⟩
  try dsimp only
  ihave F_got_rsS_0 := (bigSepL_snoc (fun k : Fin 32 => accSrcAt m c 0 k) [1, 2, 3, 4, 5, 6, 7, 8, 9, 10, 11, 12, 13, 14] 15 [1, 2, 3, 4, 5, 6, 7, 8, 9, 10, 11, 12, 13, 14, 15] rfl) $$ [F_got_rsS_0 P383]
  · isplitl [F_got_rsS_0] <;> iassumption
  ihave F_closed_rsS_0 := (bigSepL_snoc (fun k : Fin 32 => closedAt m K c 0 k rsS) [1, 2, 3, 4, 5, 6, 7, 8, 9, 10, 11, 12, 13, 14] 15 [1, 2, 3, 4, 5, 6, 7, 8, 9, 10, 11, 12, 13, 14, 15] rfl) $$ [F_closed_rsS_0 P384]
  · isplitl [F_closed_rsS_0] <;> iassumption
  ihave F_got_rsS_0 := (bigSepL_snoc (fun k : Fin 32 => accSrcAt m c 0 k) [1, 2, 3, 4, 5, 6, 7, 8, 9, 10, 11, 12, 13, 14, 15] 16 [1, 2, 3, 4, 5, 6, 7, 8, 9, 10, 11, 12, 13, 14, 15, 16] rfl) $$ [F_got_rsS_0 P385]
  · isplitl [F_got_rsS_0] <;> iassumption
  ihave F_closed_rsS_0 := (bigSepL_snoc (fun k : Fin 32 => closedAt m K c 0 k rsS) [1, 2, 3, 4, 5, 6, 7, 8, 9, 10, 11, 12, 13, 14, 15] 16 [1, 2, 3, 4, 5, 6, 7, 8, 9, 10, 11, 12, 13, 14, 15, 16] rfl) $$ [F_closed_rsS_0 P386]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16] 17 [1, 2, 3, 4, 5, 6, 7, 8, 9, 10, 11, 12, 13, 14, 15, 16, 17] rfl) $$ [F_got_rsS_0 P387]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16] 17 [1, 2, 3, 4, 5, 6, 7, 8, 9, 10, 11, 12, 13, 14, 15, 16, 17] rfl) $$ [F_closed_rsS_0 P388]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17] 18 [1, 2, 3, 4, 5, 6, 7, 8, 9, 10, 11, 12, 13, 14, 15, 16, 17, 18] rfl) $$ [F_got_rsS_0 P389]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17] 18 [1, 2, 3, 4, 5, 6, 7, 8, 9, 10, 11, 12, 13, 14, 15, 16, 17, 18] rfl) $$ [F_closed_rsS_0 P390]
  · isplitl [F_closed_rsS_0] <;> iassumption
  -- k0_part97
  icases (bigSepL_pop (fun k : Fin 32 => recvRes m K rsS c 0 k) 19 20 [21, 22, 23, 24, 25, 26, 27, 28, 29, 30, 31]) $$ F_recvRes_rsS_0 with ⟨T391, F_recvRes_rsS_0⟩
  icases (bigSepL_pop (fun k : Fin 32 => recvRes m K rsS c 0 k) 20 21 [22, 23, 24, 25, 26, 27, 28, 29, 30, 31]) $$ F_recvRes_rsS_0 with ⟨T392, F_recvRes_rsS_0⟩
  icases (bigSepL_pop (fun k : Fin 32 => recvRes m K rsS c 0 k) 21 22 [23, 24, 25, 26, 27, 28, 29, 30, 31]) $$ F_recvRes_rsS_0 with ⟨T393, F_recvRes_rsS_0⟩
  icases (bigSepL_pop (fun k : Fin 32 => recvRes m K rsS c 0 k) 22 23 [24, 25, 26, 27, 28, 29, 30, 31]) $$ F_recvRes_rsS_0 with ⟨T394, F_recvRes_rsS_0⟩
  rw [wp_bind]
  iapply (part97_spec' m K c (insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))
  isplitl [T391]
  · iexact T391
  isplitl [T392]
  · iexact T392
  isplitl [T393]
  · iexact T393
  isplitl [T394]
  · iexact T394
  isplitl []
  · iexact Hlev
  isplitl [H_owes]
  · iexact H_owes
  iintro %r ⟨P395, P396, P397, P398, P399, P400, P401, P402, H_owes⟩
  try dsimp only
  ihave F_got_rsS_0 := (bigSepL_snoc (fun k : Fin 32 => accSrcAt m c 0 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_got_rsS_0 P395]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_closed_rsS_0 P396]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_got_rsS_0 P397]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_closed_rsS_0 P398]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_got_rsS_0 P399]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_closed_rsS_0 P400]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_got_rsS_0 P401]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_closed_rsS_0 P402]
  · isplitl [F_closed_rsS_0] <;> iassumption
  -- k0_part98
  icases (bigSepL_pop (fun k : Fin 32 => recvRes m K rsS c 0 k) 23 24 [25, 26, 27, 28, 29, 30, 31]) $$ F_recvRes_rsS_0 with ⟨T403, F_recvRes_rsS_0⟩
  icases (bigSepL_pop (fun k : Fin 32 => recvRes m K rsS c 0 k) 24 25 [26, 27, 28, 29, 30, 31]) $$ F_recvRes_rsS_0 with ⟨T404, F_recvRes_rsS_0⟩
  icases (bigSepL_pop (fun k : Fin 32 => recvRes m K rsS c 0 k) 25 26 [27, 28, 29, 30, 31]) $$ F_recvRes_rsS_0 with ⟨T405, F_recvRes_rsS_0⟩
  rw [wp_bind]
  iapply (part98_spec' m K c (insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))
  isplitl [T403]
  · iexact T403
  isplitl [T404]
  · iexact T404
  isplitl [T405]
  · iexact T405
  isplitl []
  · iexact Hlev
  isplitl [H_owes]
  · iexact H_owes
  iintro %r ⟨P406, P407, P408, P409, P410, P411, H_owes⟩
  try dsimp only
  ihave F_got_rsS_0 := (bigSepL_snoc (fun k : Fin 32 => accSrcAt m c 0 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_got_rsS_0 P406]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_closed_rsS_0 P407]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_got_rsS_0 P408]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_closed_rsS_0 P409]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_got_rsS_0 P410]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_closed_rsS_0 P411]
  · isplitl [F_closed_rsS_0] <;> iassumption
  -- k0_part99
  icases (bigSepL_pop (fun k : Fin 32 => recvRes m K rsS c 0 k) 26 27 [28, 29, 30, 31]) $$ F_recvRes_rsS_0 with ⟨T412, F_recvRes_rsS_0⟩
  icases (bigSepL_pop (fun k : Fin 32 => recvRes m K rsS c 0 k) 27 28 [29, 30, 31]) $$ F_recvRes_rsS_0 with ⟨T413, F_recvRes_rsS_0⟩
  icases (bigSepL_pop (fun k : Fin 32 => recvRes m K rsS c 0 k) 28 29 [30, 31]) $$ F_recvRes_rsS_0 with ⟨T414, F_recvRes_rsS_0⟩
  icases (bigSepL_pop (fun k : Fin 32 => recvRes m K rsS c 0 k) 29 30 [31]) $$ F_recvRes_rsS_0 with ⟨T415, F_recvRes_rsS_0⟩
  rw [wp_bind]
  iapply (part99_spec' m K c (insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))
  isplitl [T412]
  · iexact T412
  isplitl [T413]
  · iexact T413
  isplitl [T414]
  · iexact T414
  isplitl [T415]
  · iexact T415
  isplitl []
  · iexact Hlev
  isplitl [H_owes]
  · iexact H_owes
  iintro %r ⟨P416, P417, P418, P419, P420, P421, P422, P423, H_owes⟩
  try dsimp only
  ihave F_got_rsS_0 := (bigSepL_snoc (fun k : Fin 32 => accSrcAt m c 0 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_got_rsS_0 P416]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_closed_rsS_0 P417]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_got_rsS_0 P418]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_closed_rsS_0 P419]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_got_rsS_0 P420]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_closed_rsS_0 P421]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_got_rsS_0 P422]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_closed_rsS_0 P423]
  · isplitl [F_closed_rsS_0] <;> iassumption
  -- k0_part100
  icases (bigSepL_pop (fun k : Fin 32 => recvRes m K rsS c 0 k) 30 31 []) $$ F_recvRes_rsS_0 with ⟨T424, F_recvRes_rsS_0⟩
  ihave T425 := (bigSepL_one (fun k : Fin 32 => recvRes m K rsS c 0 k) 31) $$ F_recvRes_rsS_0
  icases (bigSepL_pop (fun k : Fin 32 => recvRes m K rsS c 1 k) 1 2 [3, 4, 5, 6, 7, 8, 9, 10, 11, 12, 13, 14, 15, 16, 17, 18, 19, 20, 21, 22, 23, 24, 25, 26, 27, 28, 29, 30, 31]) $$ F_recvRes_rsS_1 with ⟨T426, F_recvRes_rsS_1⟩
  icases (bigSepL_pop (fun k : Fin 32 => recvRes m K rsS c 1 k) 2 3 [4, 5, 6, 7, 8, 9, 10, 11, 12, 13, 14, 15, 16, 17, 18, 19, 20, 21, 22, 23, 24, 25, 26, 27, 28, 29, 30, 31]) $$ F_recvRes_rsS_1 with ⟨T427, F_recvRes_rsS_1⟩
  rw [wp_bind]
  iapply (part100_spec' m K c (insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))
  isplitl [T424]
  · iexact T424
  isplitl [T425]
  · iexact T425
  isplitl [T426]
  · iexact T426
  isplitl [T427]
  · iexact T427
  isplitl []
  · iexact Hlev
  isplitl [H_owes]
  · iexact H_owes
  iintro %r ⟨P428, P429, P430, P431, P432, P433, P434, P435, H_owes⟩
  try dsimp only
  ihave F_got_rsS_0 := (bigSepL_snoc (fun k : Fin 32 => accSrcAt m c 0 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_got_rsS_0 P428]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_closed_rsS_0 P429]
  · isplitl [F_closed_rsS_0] <;> iassumption
  ihave F_got_rsS_0 := (bigSepL_snoc (fun k : Fin 32 => accSrcAt m c 0 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_got_rsS_0 P430]
  · isplitl [F_got_rsS_0] <;> iassumption
  ihave F_closed_rsS_0 := (bigSepL_snoc (fun k : Fin 32 => closedAt m K c 0 k rsS) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_closed_rsS_0 P431]
  · isplitl [F_closed_rsS_0] <;> iassumption
  ihave F_got_rsS_1 := (bigSepL_wrap (fun k : Fin 32 => accSrcAt m c 1 k) 1) $$ P432
  ihave F_closed_rsS_1 := (bigSepL_wrap (fun k : Fin 32 => closedAt m K c 1 k rsS) 1) $$ P433
  ihave F_got_rsS_1 := (bigSepL_snoc (fun k : Fin 32 => accSrcAt m c 1 k) [1] 2 [1, 2] rfl) $$ [F_got_rsS_1 P434]
  · isplitl [F_got_rsS_1] <;> iassumption
  ihave F_closed_rsS_1 := (bigSepL_snoc (fun k : Fin 32 => closedAt m K c 1 k rsS) [1] 2 [1, 2] rfl) $$ [F_closed_rsS_1 P435]
  · isplitl [F_closed_rsS_1] <;> iassumption
  -- k0_part101
  icases (bigSepL_pop (fun k : Fin 32 => recvRes m K rsS c 1 k) 3 4 [5, 6, 7, 8, 9, 10, 11, 12, 13, 14, 15, 16, 17, 18, 19, 20, 21, 22, 23, 24, 25, 26, 27, 28, 29, 30, 31]) $$ F_recvRes_rsS_1 with ⟨T436, F_recvRes_rsS_1⟩
  icases (bigSepL_pop (fun k : Fin 32 => recvRes m K rsS c 1 k) 4 5 [6, 7, 8, 9, 10, 11, 12, 13, 14, 15, 16, 17, 18, 19, 20, 21, 22, 23, 24, 25, 26, 27, 28, 29, 30, 31]) $$ F_recvRes_rsS_1 with ⟨T437, F_recvRes_rsS_1⟩
  icases (bigSepL_pop (fun k : Fin 32 => recvRes m K rsS c 1 k) 5 6 [7, 8, 9, 10, 11, 12, 13, 14, 15, 16, 17, 18, 19, 20, 21, 22, 23, 24, 25, 26, 27, 28, 29, 30, 31]) $$ F_recvRes_rsS_1 with ⟨T438, F_recvRes_rsS_1⟩
  icases (bigSepL_pop (fun k : Fin 32 => recvRes m K rsS c 1 k) 6 7 [8, 9, 10, 11, 12, 13, 14, 15, 16, 17, 18, 19, 20, 21, 22, 23, 24, 25, 26, 27, 28, 29, 30, 31]) $$ F_recvRes_rsS_1 with ⟨T439, F_recvRes_rsS_1⟩
  rw [wp_bind]
  iapply (part101_spec' m K c (insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))
  isplitl [T436]
  · iexact T436
  isplitl [T437]
  · iexact T437
  isplitl [T438]
  · iexact T438
  isplitl [T439]
  · iexact T439
  isplitl []
  · iexact Hlev
  isplitl [H_owes]
  · iexact H_owes
  iintro %r ⟨P440, P441, P442, P443, P444, P445, P446, P447, H_owes⟩
  try dsimp only
  ihave F_got_rsS_1 := (bigSepL_snoc (fun k : Fin 32 => accSrcAt m c 1 k) [1, 2] 3 [1, 2, 3] rfl) $$ [F_got_rsS_1 P440]
  · isplitl [F_got_rsS_1] <;> iassumption
  ihave F_closed_rsS_1 := (bigSepL_snoc (fun k : Fin 32 => closedAt m K c 1 k rsS) [1, 2] 3 [1, 2, 3] rfl) $$ [F_closed_rsS_1 P441]
  · isplitl [F_closed_rsS_1] <;> iassumption
  ihave F_got_rsS_1 := (bigSepL_snoc (fun k : Fin 32 => accSrcAt m c 1 k) [1, 2, 3] 4 [1, 2, 3, 4] rfl) $$ [F_got_rsS_1 P442]
  · isplitl [F_got_rsS_1] <;> iassumption
  ihave F_closed_rsS_1 := (bigSepL_snoc (fun k : Fin 32 => closedAt m K c 1 k rsS) [1, 2, 3] 4 [1, 2, 3, 4] rfl) $$ [F_closed_rsS_1 P443]
  · isplitl [F_closed_rsS_1] <;> iassumption
  ihave F_got_rsS_1 := (bigSepL_snoc (fun k : Fin 32 => accSrcAt m c 1 k) [1, 2, 3, 4] 5 [1, 2, 3, 4, 5] rfl) $$ [F_got_rsS_1 P444]
  · isplitl [F_got_rsS_1] <;> iassumption
  ihave F_closed_rsS_1 := (bigSepL_snoc (fun k : Fin 32 => closedAt m K c 1 k rsS) [1, 2, 3, 4] 5 [1, 2, 3, 4, 5] rfl) $$ [F_closed_rsS_1 P445]
  · isplitl [F_closed_rsS_1] <;> iassumption
  ihave F_got_rsS_1 := (bigSepL_snoc (fun k : Fin 32 => accSrcAt m c 1 k) [1, 2, 3, 4, 5] 6 [1, 2, 3, 4, 5, 6] rfl) $$ [F_got_rsS_1 P446]
  · isplitl [F_got_rsS_1] <;> iassumption
  ihave F_closed_rsS_1 := (bigSepL_snoc (fun k : Fin 32 => closedAt m K c 1 k rsS) [1, 2, 3, 4, 5] 6 [1, 2, 3, 4, 5, 6] rfl) $$ [F_closed_rsS_1 P447]
  · isplitl [F_closed_rsS_1] <;> iassumption
  -- k0_part102
  icases (bigSepL_pop (fun k : Fin 32 => recvRes m K rsS c 1 k) 7 8 [9, 10, 11, 12, 13, 14, 15, 16, 17, 18, 19, 20, 21, 22, 23, 24, 25, 26, 27, 28, 29, 30, 31]) $$ F_recvRes_rsS_1 with ⟨T448, F_recvRes_rsS_1⟩
  icases (bigSepL_pop (fun k : Fin 32 => recvRes m K rsS c 1 k) 8 9 [10, 11, 12, 13, 14, 15, 16, 17, 18, 19, 20, 21, 22, 23, 24, 25, 26, 27, 28, 29, 30, 31]) $$ F_recvRes_rsS_1 with ⟨T449, F_recvRes_rsS_1⟩
  icases (bigSepL_pop (fun k : Fin 32 => recvRes m K rsS c 1 k) 9 10 [11, 12, 13, 14, 15, 16, 17, 18, 19, 20, 21, 22, 23, 24, 25, 26, 27, 28, 29, 30, 31]) $$ F_recvRes_rsS_1 with ⟨T450, F_recvRes_rsS_1⟩
  rw [wp_bind]
  iapply (part102_spec' m K c (insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))
  isplitl [T448]
  · iexact T448
  isplitl [T449]
  · iexact T449
  isplitl [T450]
  · iexact T450
  isplitl []
  · iexact Hlev
  isplitl [H_owes]
  · iexact H_owes
  iintro %r ⟨P451, P452, P453, P454, P455, P456, H_owes⟩
  try dsimp only
  ihave F_got_rsS_1 := (bigSepL_snoc (fun k : Fin 32 => accSrcAt m c 1 k) [1, 2, 3, 4, 5, 6] 7 [1, 2, 3, 4, 5, 6, 7] rfl) $$ [F_got_rsS_1 P451]
  · isplitl [F_got_rsS_1] <;> iassumption
  ihave F_closed_rsS_1 := (bigSepL_snoc (fun k : Fin 32 => closedAt m K c 1 k rsS) [1, 2, 3, 4, 5, 6] 7 [1, 2, 3, 4, 5, 6, 7] rfl) $$ [F_closed_rsS_1 P452]
  · isplitl [F_closed_rsS_1] <;> iassumption
  ihave F_got_rsS_1 := (bigSepL_snoc (fun k : Fin 32 => accSrcAt m c 1 k) [1, 2, 3, 4, 5, 6, 7] 8 [1, 2, 3, 4, 5, 6, 7, 8] rfl) $$ [F_got_rsS_1 P453]
  · isplitl [F_got_rsS_1] <;> iassumption
  ihave F_closed_rsS_1 := (bigSepL_snoc (fun k : Fin 32 => closedAt m K c 1 k rsS) [1, 2, 3, 4, 5, 6, 7] 8 [1, 2, 3, 4, 5, 6, 7, 8] rfl) $$ [F_closed_rsS_1 P454]
  · isplitl [F_closed_rsS_1] <;> iassumption
  ihave F_got_rsS_1 := (bigSepL_snoc (fun k : Fin 32 => accSrcAt m c 1 k) [1, 2, 3, 4, 5, 6, 7, 8] 9 [1, 2, 3, 4, 5, 6, 7, 8, 9] rfl) $$ [F_got_rsS_1 P455]
  · isplitl [F_got_rsS_1] <;> iassumption
  ihave F_closed_rsS_1 := (bigSepL_snoc (fun k : Fin 32 => closedAt m K c 1 k rsS) [1, 2, 3, 4, 5, 6, 7, 8] 9 [1, 2, 3, 4, 5, 6, 7, 8, 9] rfl) $$ [F_closed_rsS_1 P456]
  · isplitl [F_closed_rsS_1] <;> iassumption
  -- k0_part103
  icases (bigSepL_pop (fun k : Fin 32 => recvRes m K rsS c 1 k) 10 11 [12, 13, 14, 15, 16, 17, 18, 19, 20, 21, 22, 23, 24, 25, 26, 27, 28, 29, 30, 31]) $$ F_recvRes_rsS_1 with ⟨T457, F_recvRes_rsS_1⟩
  icases (bigSepL_pop (fun k : Fin 32 => recvRes m K rsS c 1 k) 11 12 [13, 14, 15, 16, 17, 18, 19, 20, 21, 22, 23, 24, 25, 26, 27, 28, 29, 30, 31]) $$ F_recvRes_rsS_1 with ⟨T458, F_recvRes_rsS_1⟩
  icases (bigSepL_pop (fun k : Fin 32 => recvRes m K rsS c 1 k) 12 13 [14, 15, 16, 17, 18, 19, 20, 21, 22, 23, 24, 25, 26, 27, 28, 29, 30, 31]) $$ F_recvRes_rsS_1 with ⟨T459, F_recvRes_rsS_1⟩
  icases (bigSepL_pop (fun k : Fin 32 => recvRes m K rsS c 1 k) 13 14 [15, 16, 17, 18, 19, 20, 21, 22, 23, 24, 25, 26, 27, 28, 29, 30, 31]) $$ F_recvRes_rsS_1 with ⟨T460, F_recvRes_rsS_1⟩
  rw [wp_bind]
  iapply (part103_spec' m K c (insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))
  isplitl [T457]
  · iexact T457
  isplitl [T458]
  · iexact T458
  isplitl [T459]
  · iexact T459
  isplitl [T460]
  · iexact T460
  isplitl []
  · iexact Hlev
  isplitl [H_owes]
  · iexact H_owes
  iintro %r ⟨P461, P462, P463, P464, P465, P466, P467, P468, H_owes⟩
  try dsimp only
  ihave F_got_rsS_1 := (bigSepL_snoc (fun k : Fin 32 => accSrcAt m c 1 k) [1, 2, 3, 4, 5, 6, 7, 8, 9] 10 [1, 2, 3, 4, 5, 6, 7, 8, 9, 10] rfl) $$ [F_got_rsS_1 P461]
  · isplitl [F_got_rsS_1] <;> iassumption
  ihave F_closed_rsS_1 := (bigSepL_snoc (fun k : Fin 32 => closedAt m K c 1 k rsS) [1, 2, 3, 4, 5, 6, 7, 8, 9] 10 [1, 2, 3, 4, 5, 6, 7, 8, 9, 10] rfl) $$ [F_closed_rsS_1 P462]
  · isplitl [F_closed_rsS_1] <;> iassumption
  ihave F_got_rsS_1 := (bigSepL_snoc (fun k : Fin 32 => accSrcAt m c 1 k) [1, 2, 3, 4, 5, 6, 7, 8, 9, 10] 11 [1, 2, 3, 4, 5, 6, 7, 8, 9, 10, 11] rfl) $$ [F_got_rsS_1 P463]
  · isplitl [F_got_rsS_1] <;> iassumption
  ihave F_closed_rsS_1 := (bigSepL_snoc (fun k : Fin 32 => closedAt m K c 1 k rsS) [1, 2, 3, 4, 5, 6, 7, 8, 9, 10] 11 [1, 2, 3, 4, 5, 6, 7, 8, 9, 10, 11] rfl) $$ [F_closed_rsS_1 P464]
  · isplitl [F_closed_rsS_1] <;> iassumption
  ihave F_got_rsS_1 := (bigSepL_snoc (fun k : Fin 32 => accSrcAt m c 1 k) [1, 2, 3, 4, 5, 6, 7, 8, 9, 10, 11] 12 [1, 2, 3, 4, 5, 6, 7, 8, 9, 10, 11, 12] rfl) $$ [F_got_rsS_1 P465]
  · isplitl [F_got_rsS_1] <;> iassumption
  ihave F_closed_rsS_1 := (bigSepL_snoc (fun k : Fin 32 => closedAt m K c 1 k rsS) [1, 2, 3, 4, 5, 6, 7, 8, 9, 10, 11] 12 [1, 2, 3, 4, 5, 6, 7, 8, 9, 10, 11, 12] rfl) $$ [F_closed_rsS_1 P466]
  · isplitl [F_closed_rsS_1] <;> iassumption
  ihave F_got_rsS_1 := (bigSepL_snoc (fun k : Fin 32 => accSrcAt m c 1 k) [1, 2, 3, 4, 5, 6, 7, 8, 9, 10, 11, 12] 13 [1, 2, 3, 4, 5, 6, 7, 8, 9, 10, 11, 12, 13] rfl) $$ [F_got_rsS_1 P467]
  · isplitl [F_got_rsS_1] <;> iassumption
  ihave F_closed_rsS_1 := (bigSepL_snoc (fun k : Fin 32 => closedAt m K c 1 k rsS) [1, 2, 3, 4, 5, 6, 7, 8, 9, 10, 11, 12] 13 [1, 2, 3, 4, 5, 6, 7, 8, 9, 10, 11, 12, 13] rfl) $$ [F_closed_rsS_1 P468]
  · isplitl [F_closed_rsS_1] <;> iassumption
  -- k0_part104
  icases (bigSepL_pop (fun k : Fin 32 => recvRes m K rsS c 1 k) 14 15 [16, 17, 18, 19, 20, 21, 22, 23, 24, 25, 26, 27, 28, 29, 30, 31]) $$ F_recvRes_rsS_1 with ⟨T469, F_recvRes_rsS_1⟩
  icases (bigSepL_pop (fun k : Fin 32 => recvRes m K rsS c 1 k) 15 16 [17, 18, 19, 20, 21, 22, 23, 24, 25, 26, 27, 28, 29, 30, 31]) $$ F_recvRes_rsS_1 with ⟨T470, F_recvRes_rsS_1⟩
  icases (bigSepL_pop (fun k : Fin 32 => recvRes m K rsS c 1 k) 16 17 [18, 19, 20, 21, 22, 23, 24, 25, 26, 27, 28, 29, 30, 31]) $$ F_recvRes_rsS_1 with ⟨T471, F_recvRes_rsS_1⟩
  icases (bigSepL_pop (fun k : Fin 32 => recvRes m K rsS c 1 k) 17 18 [19, 20, 21, 22, 23, 24, 25, 26, 27, 28, 29, 30, 31]) $$ F_recvRes_rsS_1 with ⟨T472, F_recvRes_rsS_1⟩
  rw [wp_bind]
  iapply (part104_spec' m K c (insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))
  isplitl [T469]
  · iexact T469
  isplitl [T470]
  · iexact T470
  isplitl [T471]
  · iexact T471
  isplitl [T472]
  · iexact T472
  isplitl []
  · iexact Hlev
  isplitl [H_owes]
  · iexact H_owes
  iintro %r ⟨P473, P474, P475, P476, P477, P478, P479, P480, H_owes⟩
  try dsimp only
  ihave F_got_rsS_1 := (bigSepL_snoc (fun k : Fin 32 => accSrcAt m c 1 k) [1, 2, 3, 4, 5, 6, 7, 8, 9, 10, 11, 12, 13] 14 [1, 2, 3, 4, 5, 6, 7, 8, 9, 10, 11, 12, 13, 14] rfl) $$ [F_got_rsS_1 P473]
  · isplitl [F_got_rsS_1] <;> iassumption
  ihave F_closed_rsS_1 := (bigSepL_snoc (fun k : Fin 32 => closedAt m K c 1 k rsS) [1, 2, 3, 4, 5, 6, 7, 8, 9, 10, 11, 12, 13] 14 [1, 2, 3, 4, 5, 6, 7, 8, 9, 10, 11, 12, 13, 14] rfl) $$ [F_closed_rsS_1 P474]
  · isplitl [F_closed_rsS_1] <;> iassumption
  ihave F_got_rsS_1 := (bigSepL_snoc (fun k : Fin 32 => accSrcAt m c 1 k) [1, 2, 3, 4, 5, 6, 7, 8, 9, 10, 11, 12, 13, 14] 15 [1, 2, 3, 4, 5, 6, 7, 8, 9, 10, 11, 12, 13, 14, 15] rfl) $$ [F_got_rsS_1 P475]
  · isplitl [F_got_rsS_1] <;> iassumption
  ihave F_closed_rsS_1 := (bigSepL_snoc (fun k : Fin 32 => closedAt m K c 1 k rsS) [1, 2, 3, 4, 5, 6, 7, 8, 9, 10, 11, 12, 13, 14] 15 [1, 2, 3, 4, 5, 6, 7, 8, 9, 10, 11, 12, 13, 14, 15] rfl) $$ [F_closed_rsS_1 P476]
  · isplitl [F_closed_rsS_1] <;> iassumption
  ihave F_got_rsS_1 := (bigSepL_snoc (fun k : Fin 32 => accSrcAt m c 1 k) [1, 2, 3, 4, 5, 6, 7, 8, 9, 10, 11, 12, 13, 14, 15] 16 [1, 2, 3, 4, 5, 6, 7, 8, 9, 10, 11, 12, 13, 14, 15, 16] rfl) $$ [F_got_rsS_1 P477]
  · isplitl [F_got_rsS_1] <;> iassumption
  ihave F_closed_rsS_1 := (bigSepL_snoc (fun k : Fin 32 => closedAt m K c 1 k rsS) [1, 2, 3, 4, 5, 6, 7, 8, 9, 10, 11, 12, 13, 14, 15] 16 [1, 2, 3, 4, 5, 6, 7, 8, 9, 10, 11, 12, 13, 14, 15, 16] rfl) $$ [F_closed_rsS_1 P478]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16] 17 [1, 2, 3, 4, 5, 6, 7, 8, 9, 10, 11, 12, 13, 14, 15, 16, 17] rfl) $$ [F_got_rsS_1 P479]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16] 17 [1, 2, 3, 4, 5, 6, 7, 8, 9, 10, 11, 12, 13, 14, 15, 16, 17] rfl) $$ [F_closed_rsS_1 P480]
  · isplitl [F_closed_rsS_1] <;> iassumption
  -- k0_part105
  icases (bigSepL_pop (fun k : Fin 32 => recvRes m K rsS c 1 k) 18 19 [20, 21, 22, 23, 24, 25, 26, 27, 28, 29, 30, 31]) $$ F_recvRes_rsS_1 with ⟨T481, F_recvRes_rsS_1⟩
  icases (bigSepL_pop (fun k : Fin 32 => recvRes m K rsS c 1 k) 19 20 [21, 22, 23, 24, 25, 26, 27, 28, 29, 30, 31]) $$ F_recvRes_rsS_1 with ⟨T482, F_recvRes_rsS_1⟩
  icases (bigSepL_pop (fun k : Fin 32 => recvRes m K rsS c 1 k) 20 21 [22, 23, 24, 25, 26, 27, 28, 29, 30, 31]) $$ F_recvRes_rsS_1 with ⟨T483, F_recvRes_rsS_1⟩
  icases (bigSepL_pop (fun k : Fin 32 => recvRes m K rsS c 1 k) 21 22 [23, 24, 25, 26, 27, 28, 29, 30, 31]) $$ F_recvRes_rsS_1 with ⟨T484, F_recvRes_rsS_1⟩
  rw [wp_bind]
  iapply (part105_spec' m K c (insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))
  isplitl [T481]
  · iexact T481
  isplitl [T482]
  · iexact T482
  isplitl [T483]
  · iexact T483
  isplitl [T484]
  · iexact T484
  isplitl []
  · iexact Hlev
  isplitl [H_owes]
  · iexact H_owes
  iintro %r ⟨P485, P486, P487, P488, P489, P490, P491, P492, H_owes⟩
  try dsimp only
  ihave F_got_rsS_1 := (bigSepL_snoc (fun k : Fin 32 => accSrcAt m c 1 k) [1, 2, 3, 4, 5, 6, 7, 8, 9, 10, 11, 12, 13, 14, 15, 16, 17] 18 [1, 2, 3, 4, 5, 6, 7, 8, 9, 10, 11, 12, 13, 14, 15, 16, 17, 18] rfl) $$ [F_got_rsS_1 P485]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17] 18 [1, 2, 3, 4, 5, 6, 7, 8, 9, 10, 11, 12, 13, 14, 15, 16, 17, 18] rfl) $$ [F_closed_rsS_1 P486]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_got_rsS_1 P487]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_closed_rsS_1 P488]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_got_rsS_1 P489]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_closed_rsS_1 P490]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_got_rsS_1 P491]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_closed_rsS_1 P492]
  · isplitl [F_closed_rsS_1] <;> iassumption
  -- k0_part106
  icases (bigSepL_pop (fun k : Fin 32 => recvRes m K rsS c 1 k) 22 23 [24, 25, 26, 27, 28, 29, 30, 31]) $$ F_recvRes_rsS_1 with ⟨T493, F_recvRes_rsS_1⟩
  icases (bigSepL_pop (fun k : Fin 32 => recvRes m K rsS c 1 k) 23 24 [25, 26, 27, 28, 29, 30, 31]) $$ F_recvRes_rsS_1 with ⟨T494, F_recvRes_rsS_1⟩
  icases (bigSepL_pop (fun k : Fin 32 => recvRes m K rsS c 1 k) 24 25 [26, 27, 28, 29, 30, 31]) $$ F_recvRes_rsS_1 with ⟨T495, F_recvRes_rsS_1⟩
  rw [wp_bind]
  iapply (part106_spec' m K c (insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))))))))))))
  isplitl [T493]
  · iexact T493
  isplitl [T494]
  · iexact T494
  isplitl [T495]
  · iexact T495
  isplitl []
  · iexact Hlev
  isplitl [H_owes]
  · iexact H_owes
  iintro %r ⟨P496, P497, P498, P499, P500, P501, H_owes⟩
  try dsimp only
  ihave F_got_rsS_1 := (bigSepL_snoc (fun k : Fin 32 => accSrcAt m c 1 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_got_rsS_1 P496]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_closed_rsS_1 P497]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_got_rsS_1 P498]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_closed_rsS_1 P499]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_got_rsS_1 P500]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_closed_rsS_1 P501]
  · isplitl [F_closed_rsS_1] <;> iassumption
  -- k0_part107
  icases (bigSepL_pop (fun k : Fin 32 => recvRes m K rsS c 1 k) 25 26 [27, 28, 29, 30, 31]) $$ F_recvRes_rsS_1 with ⟨T502, F_recvRes_rsS_1⟩
  icases (bigSepL_pop (fun k : Fin 32 => recvRes m K rsS c 1 k) 26 27 [28, 29, 30, 31]) $$ F_recvRes_rsS_1 with ⟨T503, F_recvRes_rsS_1⟩
  icases (bigSepL_pop (fun k : Fin 32 => recvRes m K rsS c 1 k) 27 28 [29, 30, 31]) $$ F_recvRes_rsS_1 with ⟨T504, F_recvRes_rsS_1⟩
  icases (bigSepL_pop (fun k : Fin 32 => recvRes m K rsS c 1 k) 28 29 [30, 31]) $$ F_recvRes_rsS_1 with ⟨T505, F_recvRes_rsS_1⟩
  rw [wp_bind]
  iapply (part107_spec' m K c (insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))))))))))))))))
  isplitl [T502]
  · iexact T502
  isplitl [T503]
  · iexact T503
  isplitl [T504]
  · iexact T504
  isplitl [T505]
  · iexact T505
  isplitl []
  · iexact Hlev
  isplitl [H_owes]
  · iexact H_owes
  iintro %r ⟨P506, P507, P508, P509, P510, P511, P512, P513, H_owes⟩
  try dsimp only
  ihave F_got_rsS_1 := (bigSepL_snoc (fun k : Fin 32 => accSrcAt m c 1 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_got_rsS_1 P506]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_closed_rsS_1 P507]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_got_rsS_1 P508]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_closed_rsS_1 P509]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_got_rsS_1 P510]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_closed_rsS_1 P511]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_got_rsS_1 P512]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_closed_rsS_1 P513]
  · isplitl [F_closed_rsS_1] <;> iassumption
  -- k0_part108
  icases (bigSepL_pop (fun k : Fin 32 => recvRes m K rsS c 1 k) 29 30 [31]) $$ F_recvRes_rsS_1 with ⟨T514, F_recvRes_rsS_1⟩
  icases (bigSepL_pop (fun k : Fin 32 => recvRes m K rsS c 1 k) 30 31 []) $$ F_recvRes_rsS_1 with ⟨T515, F_recvRes_rsS_1⟩
  ihave T516 := (bigSepL_one (fun k : Fin 32 => recvRes m K rsS c 1 k) 31) $$ F_recvRes_rsS_1
  rw [wp_bind]
  iapply (part108_spec' m K c _ (insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))))))))))))))))
  isplitl [T514]
  · iexact T514
  isplitl [T515]
  · iexact T515
  isplitl [T516]
  · iexact T516
  isplitl []
  · iexact Hlev
  isplitl [H_owes]
  · iexact H_owes
  iintro %r ⟨P517, P518, P519, P520, P521, P522, H_owes⟩
  try dsimp only
  ihave F_got_rsS_1 := (bigSepL_snoc (fun k : Fin 32 => accSrcAt m c 1 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_got_rsS_1 P517]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_closed_rsS_1 P518]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_got_rsS_1 P519]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_closed_rsS_1 P520]
  · isplitl [F_closed_rsS_1] <;> iassumption
  ihave F_got_rsS_1 := (bigSepL_snoc (fun k : Fin 32 => accSrcAt m c 1 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_got_rsS_1 P521]
  · isplitl [F_got_rsS_1] <;> iassumption
  ihave F_closed_rsS_1 := (bigSepL_snoc (fun k : Fin 32 => closedAt m K c 1 k rsS) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_closed_rsS_1 P522]
  · isplitl [F_closed_rsS_1] <;> iassumption
  -- k0_part109
  icases (bigSepL_pop (fun k : Fin 32 => recvRes m K agR c 0 k) 1 2 [3, 4, 5, 6, 7, 8, 9, 10, 11, 12, 13, 14, 15, 16, 17, 18, 19, 20, 21, 22, 23, 24, 25, 26, 27, 28, 29, 30, 31]) $$ F_recvRes_agR_0 with ⟨T523, F_recvRes_agR_0⟩
  icases (bigSepL_pop (fun k : Fin 32 => recvRes m K agR c 0 k) 2 3 [4, 5, 6, 7, 8, 9, 10, 11, 12, 13, 14, 15, 16, 17, 18, 19, 20, 21, 22, 23, 24, 25, 26, 27, 28, 29, 30, 31]) $$ F_recvRes_agR_0 with ⟨T524, F_recvRes_agR_0⟩
  icases (bigSepL_pop (fun k : Fin 32 => recvRes m K agR c 0 k) 3 4 [5, 6, 7, 8, 9, 10, 11, 12, 13, 14, 15, 16, 17, 18, 19, 20, 21, 22, 23, 24, 25, 26, 27, 28, 29, 30, 31]) $$ F_recvRes_agR_0 with ⟨T525, F_recvRes_agR_0⟩
  rw [wp_bind]
  iapply (part109_spec' m K c _ (insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))))))))))))))))))))
  isplitl [T523]
  · iexact T523
  isplitl [T524]
  · iexact T524
  isplitl [T525]
  · iexact T525
  isplitl []
  · iexact Hlev
  isplitl [H_owes]
  · iexact H_owes
  iintro %r ⟨P526, P527, P528, P529, P530, P531, H_owes⟩
  obtain ⟨v2718, c32_i32_3491⟩ := r
  try dsimp only
  ihave F_got_agR_0 := (bigSepL_wrap (fun k : Fin 32 => gotAgR m c 0 k) 1) $$ P526
  ihave F_closed_agR_0 := (bigSepL_wrap (fun k : Fin 32 => closedAt m K c 0 k agR) 1) $$ P527
  ihave F_got_agR_0 := (bigSepL_snoc (fun k : Fin 32 => gotAgR m c 0 k) [1] 2 [1, 2] rfl) $$ [F_got_agR_0 P528]
  · isplitl [F_got_agR_0] <;> iassumption
  ihave F_closed_agR_0 := (bigSepL_snoc (fun k : Fin 32 => closedAt m K c 0 k agR) [1] 2 [1, 2] rfl) $$ [F_closed_agR_0 P529]
  · isplitl [F_closed_agR_0] <;> iassumption
  ihave F_got_agR_0 := (bigSepL_snoc (fun k : Fin 32 => gotAgR m c 0 k) [1, 2] 3 [1, 2, 3] rfl) $$ [F_got_agR_0 P530]
  · isplitl [F_got_agR_0] <;> iassumption
  ihave F_closed_agR_0 := (bigSepL_snoc (fun k : Fin 32 => closedAt m K c 0 k agR) [1, 2] 3 [1, 2, 3] rfl) $$ [F_closed_agR_0 P531]
  · isplitl [F_closed_agR_0] <;> iassumption
  -- k0_part110
  icases (bigSepL_pop (fun k : Fin 32 => recvRes m K agR c 0 k) 4 5 [6, 7, 8, 9, 10, 11, 12, 13, 14, 15, 16, 17, 18, 19, 20, 21, 22, 23, 24, 25, 26, 27, 28, 29, 30, 31]) $$ F_recvRes_agR_0 with ⟨T532, F_recvRes_agR_0⟩
  icases (bigSepL_pop (fun k : Fin 32 => recvRes m K agR c 0 k) 5 6 [7, 8, 9, 10, 11, 12, 13, 14, 15, 16, 17, 18, 19, 20, 21, 22, 23, 24, 25, 26, 27, 28, 29, 30, 31]) $$ F_recvRes_agR_0 with ⟨T533, F_recvRes_agR_0⟩
  rw [wp_bind]
  iapply (part110_spec' m K c _ _ _ (insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))))))))))))))))))))))))
  isplitl [T532]
  · iexact T532
  isplitl [T533]
  · iexact T533
  isplitl []
  · iexact Hlev
  isplitl [H_owes]
  · iexact H_owes
  iintro %r ⟨P534, P535, P536, P537, H_owes⟩
  obtain ⟨v2741, c1_i32_3524⟩ := r
  try dsimp only
  ihave F_got_agR_0 := (bigSepL_snoc (fun k : Fin 32 => gotAgR m c 0 k) [1, 2, 3] 4 [1, 2, 3, 4] rfl) $$ [F_got_agR_0 P534]
  · isplitl [F_got_agR_0] <;> iassumption
  ihave F_closed_agR_0 := (bigSepL_snoc (fun k : Fin 32 => closedAt m K c 0 k agR) [1, 2, 3] 4 [1, 2, 3, 4] rfl) $$ [F_closed_agR_0 P535]
  · isplitl [F_closed_agR_0] <;> iassumption
  ihave F_got_agR_0 := (bigSepL_snoc (fun k : Fin 32 => gotAgR m c 0 k) [1, 2, 3, 4] 5 [1, 2, 3, 4, 5] rfl) $$ [F_got_agR_0 P536]
  · isplitl [F_got_agR_0] <;> iassumption
  ihave F_closed_agR_0 := (bigSepL_snoc (fun k : Fin 32 => closedAt m K c 0 k agR) [1, 2, 3, 4] 5 [1, 2, 3, 4, 5] rfl) $$ [F_closed_agR_0 P537]
  · isplitl [F_closed_agR_0] <;> iassumption
  -- k0_part111
  icases (bigSepL_pop (fun k : Fin 32 => recvRes m K agR c 0 k) 6 7 [8, 9, 10, 11, 12, 13, 14, 15, 16, 17, 18, 19, 20, 21, 22, 23, 24, 25, 26, 27, 28, 29, 30, 31]) $$ F_recvRes_agR_0 with ⟨T538, F_recvRes_agR_0⟩
  icases (bigSepL_pop (fun k : Fin 32 => recvRes m K agR c 0 k) 7 8 [9, 10, 11, 12, 13, 14, 15, 16, 17, 18, 19, 20, 21, 22, 23, 24, 25, 26, 27, 28, 29, 30, 31]) $$ F_recvRes_agR_0 with ⟨T539, F_recvRes_agR_0⟩
  icases (bigSepL_pop (fun k : Fin 32 => recvRes m K agR c 0 k) 8 9 [10, 11, 12, 13, 14, 15, 16, 17, 18, 19, 20, 21, 22, 23, 24, 25, 26, 27, 28, 29, 30, 31]) $$ F_recvRes_agR_0 with ⟨T540, F_recvRes_agR_0⟩
  rw [wp_bind]
  iapply (part111_spec' m K c _ _ _ (insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))))))))))))))))))))))))))))))))
  isplitl [T538]
  · iexact T538
  isplitl [T539]
  · iexact T539
  isplitl [T540]
  · iexact T540
  isplitl []
  · iexact Hlev
  isplitl [H_owes]
  · iexact H_owes
  iintro %r ⟨P541, P542, P543, P544, P545, P546, H_owes⟩
  try dsimp only
  ihave F_got_agR_0 := (bigSepL_snoc (fun k : Fin 32 => gotAgR m c 0 k) [1, 2, 3, 4, 5] 6 [1, 2, 3, 4, 5, 6] rfl) $$ [F_got_agR_0 P541]
  · isplitl [F_got_agR_0] <;> iassumption
  ihave F_closed_agR_0 := (bigSepL_snoc (fun k : Fin 32 => closedAt m K c 0 k agR) [1, 2, 3, 4, 5] 6 [1, 2, 3, 4, 5, 6] rfl) $$ [F_closed_agR_0 P542]
  · isplitl [F_closed_agR_0] <;> iassumption
  ihave F_got_agR_0 := (bigSepL_snoc (fun k : Fin 32 => gotAgR m c 0 k) [1, 2, 3, 4, 5, 6] 7 [1, 2, 3, 4, 5, 6, 7] rfl) $$ [F_got_agR_0 P543]
  · isplitl [F_got_agR_0] <;> iassumption
  ihave F_closed_agR_0 := (bigSepL_snoc (fun k : Fin 32 => closedAt m K c 0 k agR) [1, 2, 3, 4, 5, 6] 7 [1, 2, 3, 4, 5, 6, 7] rfl) $$ [F_closed_agR_0 P544]
  · isplitl [F_closed_agR_0] <;> iassumption
  ihave F_got_agR_0 := (bigSepL_snoc (fun k : Fin 32 => gotAgR m c 0 k) [1, 2, 3, 4, 5, 6, 7] 8 [1, 2, 3, 4, 5, 6, 7, 8] rfl) $$ [F_got_agR_0 P545]
  · isplitl [F_got_agR_0] <;> iassumption
  ihave F_closed_agR_0 := (bigSepL_snoc (fun k : Fin 32 => closedAt m K c 0 k agR) [1, 2, 3, 4, 5, 6, 7] 8 [1, 2, 3, 4, 5, 6, 7, 8] rfl) $$ [F_closed_agR_0 P546]
  · isplitl [F_closed_agR_0] <;> iassumption
  -- k0_part112
  icases (bigSepL_pop (fun k : Fin 32 => recvRes m K agR c 0 k) 9 10 [11, 12, 13, 14, 15, 16, 17, 18, 19, 20, 21, 22, 23, 24, 25, 26, 27, 28, 29, 30, 31]) $$ F_recvRes_agR_0 with ⟨T547, F_recvRes_agR_0⟩
  icases (bigSepL_pop (fun k : Fin 32 => recvRes m K agR c 0 k) 10 11 [12, 13, 14, 15, 16, 17, 18, 19, 20, 21, 22, 23, 24, 25, 26, 27, 28, 29, 30, 31]) $$ F_recvRes_agR_0 with ⟨T548, F_recvRes_agR_0⟩
  rw [wp_bind]
  iapply (part112_spec' m K c _ (insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))))))))))))))))))))))))))))))))))))
  isplitl [T547]
  · iexact T547
  isplitl [T548]
  · iexact T548
  isplitl []
  · iexact Hlev
  isplitl [H_owes]
  · iexact H_owes
  iintro %v2796 ⟨P549, P550, P551, P552, H_owes⟩
  try dsimp only
  ihave F_got_agR_0 := (bigSepL_snoc (fun k : Fin 32 => gotAgR m c 0 k) [1, 2, 3, 4, 5, 6, 7, 8] 9 [1, 2, 3, 4, 5, 6, 7, 8, 9] rfl) $$ [F_got_agR_0 P549]
  · isplitl [F_got_agR_0] <;> iassumption
  ihave F_closed_agR_0 := (bigSepL_snoc (fun k : Fin 32 => closedAt m K c 0 k agR) [1, 2, 3, 4, 5, 6, 7, 8] 9 [1, 2, 3, 4, 5, 6, 7, 8, 9] rfl) $$ [F_closed_agR_0 P550]
  · isplitl [F_closed_agR_0] <;> iassumption
  ihave F_got_agR_0 := (bigSepL_snoc (fun k : Fin 32 => gotAgR m c 0 k) [1, 2, 3, 4, 5, 6, 7, 8, 9] 10 [1, 2, 3, 4, 5, 6, 7, 8, 9, 10] rfl) $$ [F_got_agR_0 P551]
  · isplitl [F_got_agR_0] <;> iassumption
  ihave F_closed_agR_0 := (bigSepL_snoc (fun k : Fin 32 => closedAt m K c 0 k agR) [1, 2, 3, 4, 5, 6, 7, 8, 9] 10 [1, 2, 3, 4, 5, 6, 7, 8, 9, 10] rfl) $$ [F_closed_agR_0 P552]
  · isplitl [F_closed_agR_0] <;> iassumption
  -- k0_part113
  icases (bigSepL_pop (fun k : Fin 32 => recvRes m K agR c 0 k) 11 12 [13, 14, 15, 16, 17, 18, 19, 20, 21, 22, 23, 24, 25, 26, 27, 28, 29, 30, 31]) $$ F_recvRes_agR_0 with ⟨T553, F_recvRes_agR_0⟩
  icases (bigSepL_pop (fun k : Fin 32 => recvRes m K agR c 0 k) 12 13 [14, 15, 16, 17, 18, 19, 20, 21, 22, 23, 24, 25, 26, 27, 28, 29, 30, 31]) $$ F_recvRes_agR_0 with ⟨T554, F_recvRes_agR_0⟩
  rw [wp_bind]
  iapply (part113_spec' m K c _ _ (insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))))))))))))))))))))))))))))))))))
  isplitl [T553]
  · iexact T553
  isplitl [T554]
  · iexact T554
  isplitl []
  · iexact Hlev
  isplitl [H_owes]
  · iexact H_owes
  iintro %r ⟨P555, P556, P557, P558, H_owes⟩
  try dsimp only
  ihave F_got_agR_0 := (bigSepL_snoc (fun k : Fin 32 => gotAgR m c 0 k) [1, 2, 3, 4, 5, 6, 7, 8, 9, 10] 11 [1, 2, 3, 4, 5, 6, 7, 8, 9, 10, 11] rfl) $$ [F_got_agR_0 P555]
  · isplitl [F_got_agR_0] <;> iassumption
  ihave F_closed_agR_0 := (bigSepL_snoc (fun k : Fin 32 => closedAt m K c 0 k agR) [1, 2, 3, 4, 5, 6, 7, 8, 9, 10] 11 [1, 2, 3, 4, 5, 6, 7, 8, 9, 10, 11] rfl) $$ [F_closed_agR_0 P556]
  · isplitl [F_closed_agR_0] <;> iassumption
  ihave F_got_agR_0 := (bigSepL_snoc (fun k : Fin 32 => gotAgR m c 0 k) [1, 2, 3, 4, 5, 6, 7, 8, 9, 10, 11] 12 [1, 2, 3, 4, 5, 6, 7, 8, 9, 10, 11, 12] rfl) $$ [F_got_agR_0 P557]
  · isplitl [F_got_agR_0] <;> iassumption
  ihave F_closed_agR_0 := (bigSepL_snoc (fun k : Fin 32 => closedAt m K c 0 k agR) [1, 2, 3, 4, 5, 6, 7, 8, 9, 10, 11] 12 [1, 2, 3, 4, 5, 6, 7, 8, 9, 10, 11, 12] rfl) $$ [F_closed_agR_0 P558]
  · isplitl [F_closed_agR_0] <;> iassumption
  -- k0_part114
  icases (bigSepL_pop (fun k : Fin 32 => recvRes m K agR c 0 k) 13 14 [15, 16, 17, 18, 19, 20, 21, 22, 23, 24, 25, 26, 27, 28, 29, 30, 31]) $$ F_recvRes_agR_0 with ⟨T559, F_recvRes_agR_0⟩
  icases (bigSepL_pop (fun k : Fin 32 => recvRes m K agR c 0 k) 14 15 [16, 17, 18, 19, 20, 21, 22, 23, 24, 25, 26, 27, 28, 29, 30, 31]) $$ F_recvRes_agR_0 with ⟨T560, F_recvRes_agR_0⟩
  icases (bigSepL_pop (fun k : Fin 32 => recvRes m K agR c 0 k) 15 16 [17, 18, 19, 20, 21, 22, 23, 24, 25, 26, 27, 28, 29, 30, 31]) $$ F_recvRes_agR_0 with ⟨T561, F_recvRes_agR_0⟩
  rw [wp_bind]
  iapply (part114_spec' m K c _ (insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))))))))))))))))))))))))))))))))))))))))))
  isplitl [T559]
  · iexact T559
  isplitl [T560]
  · iexact T560
  isplitl [T561]
  · iexact T561
  isplitl []
  · iexact Hlev
  isplitl [H_owes]
  · iexact H_owes
  iintro %r ⟨P562, P563, P564, P565, P566, P567, H_owes⟩
  obtain ⟨v2850, c32_i32_3647⟩ := r
  try dsimp only
  ihave F_got_agR_0 := (bigSepL_snoc (fun k : Fin 32 => gotAgR m c 0 k) [1, 2, 3, 4, 5, 6, 7, 8, 9, 10, 11, 12] 13 [1, 2, 3, 4, 5, 6, 7, 8, 9, 10, 11, 12, 13] rfl) $$ [F_got_agR_0 P562]
  · isplitl [F_got_agR_0] <;> iassumption
  ihave F_closed_agR_0 := (bigSepL_snoc (fun k : Fin 32 => closedAt m K c 0 k agR) [1, 2, 3, 4, 5, 6, 7, 8, 9, 10, 11, 12] 13 [1, 2, 3, 4, 5, 6, 7, 8, 9, 10, 11, 12, 13] rfl) $$ [F_closed_agR_0 P563]
  · isplitl [F_closed_agR_0] <;> iassumption
  ihave F_got_agR_0 := (bigSepL_snoc (fun k : Fin 32 => gotAgR m c 0 k) [1, 2, 3, 4, 5, 6, 7, 8, 9, 10, 11, 12, 13] 14 [1, 2, 3, 4, 5, 6, 7, 8, 9, 10, 11, 12, 13, 14] rfl) $$ [F_got_agR_0 P564]
  · isplitl [F_got_agR_0] <;> iassumption
  ihave F_closed_agR_0 := (bigSepL_snoc (fun k : Fin 32 => closedAt m K c 0 k agR) [1, 2, 3, 4, 5, 6, 7, 8, 9, 10, 11, 12, 13] 14 [1, 2, 3, 4, 5, 6, 7, 8, 9, 10, 11, 12, 13, 14] rfl) $$ [F_closed_agR_0 P565]
  · isplitl [F_closed_agR_0] <;> iassumption
  ihave F_got_agR_0 := (bigSepL_snoc (fun k : Fin 32 => gotAgR m c 0 k) [1, 2, 3, 4, 5, 6, 7, 8, 9, 10, 11, 12, 13, 14] 15 [1, 2, 3, 4, 5, 6, 7, 8, 9, 10, 11, 12, 13, 14, 15] rfl) $$ [F_got_agR_0 P566]
  · isplitl [F_got_agR_0] <;> iassumption
  ihave F_closed_agR_0 := (bigSepL_snoc (fun k : Fin 32 => closedAt m K c 0 k agR) [1, 2, 3, 4, 5, 6, 7, 8, 9, 10, 11, 12, 13, 14] 15 [1, 2, 3, 4, 5, 6, 7, 8, 9, 10, 11, 12, 13, 14, 15] rfl) $$ [F_closed_agR_0 P567]
  · isplitl [F_closed_agR_0] <;> iassumption
  -- k0_part115
  icases (bigSepL_pop (fun k : Fin 32 => recvRes m K agR c 0 k) 16 17 [18, 19, 20, 21, 22, 23, 24, 25, 26, 27, 28, 29, 30, 31]) $$ F_recvRes_agR_0 with ⟨T568, F_recvRes_agR_0⟩
  icases (bigSepL_pop (fun k : Fin 32 => recvRes m K agR c 0 k) 17 18 [19, 20, 21, 22, 23, 24, 25, 26, 27, 28, 29, 30, 31]) $$ F_recvRes_agR_0 with ⟨T569, F_recvRes_agR_0⟩
  rw [wp_bind]
  iapply (part115_spec' m K c _ _ _ (insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))))))))))))))))))))))))))))))))))))))))))))))
  isplitl [T568]
  · iexact T568
  isplitl [T569]
  · iexact T569
  isplitl []
  · iexact Hlev
  isplitl [H_owes]
  · iexact H_owes
  iintro %r ⟨P570, P571, P572, P573, H_owes⟩
  obtain ⟨v2873, c1_i32_3680⟩ := r
  try dsimp only
  ihave F_got_agR_0 := (bigSepL_snoc (fun k : Fin 32 => gotAgR m c 0 k) [1, 2, 3, 4, 5, 6, 7, 8, 9, 10, 11, 12, 13, 14, 15] 16 [1, 2, 3, 4, 5, 6, 7, 8, 9, 10, 11, 12, 13, 14, 15, 16] rfl) $$ [F_got_agR_0 P570]
  · isplitl [F_got_agR_0] <;> iassumption
  ihave F_closed_agR_0 := (bigSepL_snoc (fun k : Fin 32 => closedAt m K c 0 k agR) [1, 2, 3, 4, 5, 6, 7, 8, 9, 10, 11, 12, 13, 14, 15] 16 [1, 2, 3, 4, 5, 6, 7, 8, 9, 10, 11, 12, 13, 14, 15, 16] rfl) $$ [F_closed_agR_0 P571]
  · isplitl [F_closed_agR_0] <;> iassumption
  ihave F_got_agR_0 := (bigSepL_snoc (fun k : Fin 32 => gotAgR m c 0 k) [1, 2, 3, 4, 5, 6, 7, 8, 9, 10, 11, 12, 13, 14, 15, 16] 17 [1, 2, 3, 4, 5, 6, 7, 8, 9, 10, 11, 12, 13, 14, 15, 16, 17] rfl) $$ [F_got_agR_0 P572]
  · isplitl [F_got_agR_0] <;> iassumption
  ihave F_closed_agR_0 := (bigSepL_snoc (fun k : Fin 32 => closedAt m K c 0 k agR) [1, 2, 3, 4, 5, 6, 7, 8, 9, 10, 11, 12, 13, 14, 15, 16] 17 [1, 2, 3, 4, 5, 6, 7, 8, 9, 10, 11, 12, 13, 14, 15, 16, 17] rfl) $$ [F_closed_agR_0 P573]
  · isplitl [F_closed_agR_0] <;> iassumption
  -- k0_part116
  icases (bigSepL_pop (fun k : Fin 32 => recvRes m K agR c 0 k) 18 19 [20, 21, 22, 23, 24, 25, 26, 27, 28, 29, 30, 31]) $$ F_recvRes_agR_0 with ⟨T574, F_recvRes_agR_0⟩
  icases (bigSepL_pop (fun k : Fin 32 => recvRes m K agR c 0 k) 19 20 [21, 22, 23, 24, 25, 26, 27, 28, 29, 30, 31]) $$ F_recvRes_agR_0 with ⟨T575, F_recvRes_agR_0⟩
  icases (bigSepL_pop (fun k : Fin 32 => recvRes m K agR c 0 k) 20 21 [22, 23, 24, 25, 26, 27, 28, 29, 30, 31]) $$ F_recvRes_agR_0 with ⟨T576, F_recvRes_agR_0⟩
  rw [wp_bind]
  iapply (part116_spec' m K c _ _ _ (insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))))))))))))))))))))))))))))))))))))))))))))
  isplitl [T574]
  · iexact T574
  isplitl [T575]
  · iexact T575
  isplitl [T576]
  · iexact T576
  isplitl []
  · iexact Hlev
  isplitl [H_owes]
  · iexact H_owes
  iintro %r ⟨P577, P578, P579, P580, P581, P582, H_owes⟩
  try dsimp only
  ihave F_got_agR_0 := (bigSepL_snoc (fun k : Fin 32 => gotAgR m c 0 k) [1, 2, 3, 4, 5, 6, 7, 8, 9, 10, 11, 12, 13, 14, 15, 16, 17] 18 [1, 2, 3, 4, 5, 6, 7, 8, 9, 10, 11, 12, 13, 14, 15, 16, 17, 18] rfl) $$ [F_got_agR_0 P577]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17] 18 [1, 2, 3, 4, 5, 6, 7, 8, 9, 10, 11, 12, 13, 14, 15, 16, 17, 18] rfl) $$ [F_closed_agR_0 P578]
  · isplitl [F_closed_agR_0] <;> iassumption
  ihave F_got_agR_0 := (bigSepL_snoc (fun k : Fin 32 => gotAgR m c 0 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_got_agR_0 P579]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_closed_agR_0 P580]
  · isplitl [F_closed_agR_0] <;> iassumption
  ihave F_got_agR_0 := (bigSepL_snoc (fun k : Fin 32 => gotAgR m c 0 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_got_agR_0 P581]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_closed_agR_0 P582]
  · isplitl [F_closed_agR_0] <;> iassumption
  -- k0_part117
  icases (bigSepL_pop (fun k : Fin 32 => recvRes m K agR c 0 k) 21 22 [23, 24, 25, 26, 27, 28, 29, 30, 31]) $$ F_recvRes_agR_0 with ⟨T583, F_recvRes_agR_0⟩
  icases (bigSepL_pop (fun k : Fin 32 => recvRes m K agR c 0 k) 22 23 [24, 25, 26, 27, 28, 29, 30, 31]) $$ F_recvRes_agR_0 with ⟨T584, F_recvRes_agR_0⟩
  rw [wp_bind]
  iapply (part117_spec' m K c _ (insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))))))))))))))))))))))))))))))))))))))))))))))))
  isplitl [T583]
  · iexact T583
  isplitl [T584]
  · iexact T584
  isplitl []
  · iexact Hlev
  isplitl [H_owes]
  · iexact H_owes
  iintro %v2928 ⟨P585, P586, P587, P588, H_owes⟩
  try dsimp only
  ihave F_got_agR_0 := (bigSepL_snoc (fun k : Fin 32 => gotAgR m c 0 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_got_agR_0 P585]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_closed_agR_0 P586]
  · isplitl [F_closed_agR_0] <;> iassumption
  ihave F_got_agR_0 := (bigSepL_snoc (fun k : Fin 32 => gotAgR m c 0 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_got_agR_0 P587]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_closed_agR_0 P588]
  · isplitl [F_closed_agR_0] <;> iassumption
  -- k0_part118
  icases (bigSepL_pop (fun k : Fin 32 => recvRes m K agR c 0 k) 23 24 [25, 26, 27, 28, 29, 30, 31]) $$ F_recvRes_agR_0 with ⟨T589, F_recvRes_agR_0⟩
  icases (bigSepL_pop (fun k : Fin 32 => recvRes m K agR c 0 k) 24 25 [26, 27, 28, 29, 30, 31]) $$ F_recvRes_agR_0 with ⟨T590, F_recvRes_agR_0⟩
  rw [wp_bind]
  iapply (part118_spec' m K c _ _ (insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W))))))))))))))))))))))))))))))))))))))))))))))))))))))))))))))))))))))))))))))))))))))))))))))))))))))))))))))))))))))))))))))))))))))))))))))))))))))))))))))))))))))))))
  isplitl [T589]
  · iexact T589
  isplitl [T590]
  · iexact T590
  isplitl []
  · iexact Hlev
  isplitl [H_owes]
  · iexact H_owes
  iintro %r ⟨P591, P592, P593, P594, H_owes⟩
  try dsimp only
  ihave F_got_agR_0 := (bigSepL_snoc (fun k : Fin 32 => gotAgR m c 0 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_got_agR_0 P591]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_closed_agR_0 P592]
  · isplitl [F_closed_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_got_agR_0 P593]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_closed_agR_0 P594]
  · isplitl [F_closed_agR_0] <;> iassumption
  -- k0_part119
  icases (bigSepL_pop (fun k : Fin 32 => recvRes m K agR c 0 k) 25 26 [27, 28, 29, 30, 31]) $$ F_recvRes_agR_0 with ⟨T595, F_recvRes_agR_0⟩
  icases (bigSepL_pop (fun k : Fin 32 => recvRes m K agR c 0 k) 26 27 [28, 29, 30, 31]) $$ F_recvRes_agR_0 with ⟨T596, F_recvRes_agR_0⟩
  icases (bigSepL_pop (fun k : Fin 32 => recvRes m K agR c 0 k) 27 28 [29, 30, 31]) $$ F_recvRes_agR_0 with ⟨T597, F_recvRes_agR_0⟩
  rw [wp_bind]
  iapply (part119_spec' m K c _ (insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))))))))))))))))))))))))))))))))))))))))))))))))))))))
  isplitl [T595]
  · iexact T595
  isplitl [T596]
  · iexact T596
  isplitl [T597]
  · iexact T597
  isplitl []
  · iexact Hlev
  isplitl [H_owes]
  · iexact H_owes
  iintro %r ⟨P598, P599, P600, P601, P602, P603, H_owes⟩
  obtain ⟨v2982, c32_i32_3803⟩ := r
  try dsimp only
  ihave F_got_agR_0 := (bigSepL_snoc (fun k : Fin 32 => gotAgR m c 0 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_got_agR_0 P598]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_closed_agR_0 P599]
  · isplitl [F_closed_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_got_agR_0 P600]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_closed_agR_0 P601]
  · isplitl [F_closed_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_got_agR_0 P602]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_closed_agR_0 P603]
  · isplitl [F_closed_agR_0] <;> iassumption
  -- k0_part120
  icases (bigSepL_pop (fun k : Fin 32 => recvRes m K agR c 0 k) 28 29 [30, 31]) $$ F_recvRes_agR_0 with ⟨T604, F_recvRes_agR_0⟩
  icases (bigSepL_pop (fun k : Fin 32 => recvRes m K agR c 0 k) 29 30 [31]) $$ F_recvRes_agR_0 with ⟨T605, F_recvRes_agR_0⟩
  rw [wp_bind]
  iapply (part120_spec' m K c _ _ _ (insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) (W)))))))))))))))))))))))))))))))))))))))))))))))))))))))))))))))))))))))))))))))))))))))))))))))))))))))))))))))))))))))))))))))))))))))))))))))))))))))))))))))))))))))))))))))))
  isplitl [T604]
  · iexact T604
  isplitl [T605]
  · iexact T605
  isplitl []
  · iexact Hlev
  isplitl [H_owes]
  · iexact H_owes
  iintro %r ⟨P606, P607, P608, P609, H_owes⟩
  obtain ⟨v3005, c1_i32_3836⟩ := r
  try dsimp only
  ihave F_got_agR_0 := (bigSepL_snoc (fun k : Fin 32 => gotAgR m c 0 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_got_agR_0 P606]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_closed_agR_0 P607]
  · isplitl [F_closed_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_got_agR_0 P608]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_closed_agR_0 P609]
  · isplitl [F_closed_agR_0] <;> iassumption
  rw [wp_pure]
  imodintro
  iapply Hk
  isplitl [H_owes]
  · iexact H_owes
  isplitl [F_recvRes_agS_0]
  · iexact F_recvRes_agS_0
  isplitl [F_got_rsR_1]
  · iexact F_got_rsR_1
  isplitl [F_closed_rsR_1]
  · iexact F_closed_rsR_1
  isplitl [F_outShare0_1]
  · iexact F_outShare0_1
  isplitl [F_recvRes_agS_1]
  · iexact F_recvRes_agS_1
  isplitl [F_got_rsS_0]
  · iexact F_got_rsS_0
  isplitl [F_closed_rsS_0]
  · iexact F_closed_rsS_0
  isplitl [F_got_rsS_1]
  · iexact F_got_rsS_1
  isplitl [F_closed_rsS_1]
  · iexact F_closed_rsS_1
  isplitl [F_recvRes_agR_0]
  · iexact F_recvRes_agR_0
  isplitl [F_got_agR_0]
  · iexact F_got_agR_0
  iexact F_closed_agR_0

/-! ## The body -/

attribute [local sl_rounds] duties_dma amount_dma expect_dma pay_agS in
set_option maxRecDepth 200000 in
set_option maxHeartbeats 8000000 in
/-- The body on device c, from its launch state to Φ₁: the two grouping parts, the 26 parts after them and the last wait, each by
    its own statement, the resources handed from one to the next by family. -/
theorem sound_body : SoundBody (F := F) m := by
  intro K c f2 f3 fo fb W Kt
  unfold ghost
  rw [cc0_body_eq_skeleton]; unfold cc0_body_skel
  iintro ⟨⟨F_sigRes, F_barRes, F_copyRes_rsS_0, F_copyRes_rsS_1, F_recvRes_rsR_0, F_copyRes_agS_0, F_recvRes_rsR_1, F_copyRes_agS_1, F_recvRes_agR_0, F_recvRes_agR_1, F_idle, #Hlev⟩, H_owes, F_stgX, F_stgW, F_stg2, F_accWhole, H4, H5, Hk⟩
  icases (Entails.of_eq (out_cut (F := F) c fo)) $$ H4 with ⟨⟨O00, F_out_0⟩, ⟨O10, F_out_1⟩⟩
  icases (Entails.of_eq (buf_cut (F := F) c fb)) $$ H5 with ⟨⟨S00, F_slot_0⟩, ⟨S10, F_slot_1⟩⟩
  ihave F_out0_0 := (bigSepL_wrap (fun k : Fin 32 => outAt c 0 k fo) 0) $$ O00
  ihave F_out0_1 := (bigSepL_wrap (fun k : Fin 32 => outAt c 1 k fo) 0) $$ O10
  ihave F_slot0_0 := (bigSepL_wrap (fun k : Fin 32 => slotAt c 0 fb (opp k)) 0) $$ S00
  ihave F_slot0_1 := (bigSepL_wrap (fun k : Fin 32 => slotAt c 1 fb (opp k)) 0) $$ S10
  rw [ks_eq]
  -- k0_part147 (composite)
  rw [wp_bind]
  iapply (part147_spec m K c f3 fo fb (W))
  isplitl [H_owes]
  · iexact H_owes
  isplitl []
  · iexact Hlev
  isplitl [F_sigRes]
  · iexact F_sigRes
  isplitl [F_slot_0]
  · iexact F_slot_0
  isplitl [F_slot_1]
  · iexact F_slot_1
  isplitl [F_out_0]
  · iexact F_out_0
  isplitl [F_out_1]
  · iexact F_out_1
  isplitl [F_stgX]
  · iexact F_stgX
  isplitl [F_stgW]
  · iexact F_stgW
  isplitl [F_accWhole]
  · iexact F_accWhole
  isplitl [F_slot0_0]
  · iexact F_slot0_0
  isplitl [F_barRes]
  · iexact F_barRes
  isplitl [F_copyRes_rsS_0]
  · iexact F_copyRes_rsS_0
  isplitl [F_slot0_1]
  · iexact F_slot0_1
  isplitl [F_copyRes_rsS_1]
  · iexact F_copyRes_rsS_1
  isplitl [F_recvRes_rsR_0]
  · iexact F_recvRes_rsR_0
  isplitl [F_out0_0]
  · iexact F_out0_0
  isplitl [F_copyRes_agS_0]
  · iexact F_copyRes_agS_0
  iintro %v2 ⟨H_owes, F_stgX, F_stgW, F_accSrc0_0, F_got_rsR_0, F_peerOut_0, F_peerOut_1, F_recvRes_rsS_0, F_accSrc0_1, F_got_rsR_1, F_recvRes_rsS_1, F_closed_rsR_0, F_outShare0_0, F_outShare_0, F_copyRes_agS_0, F_recvRes_agS_0⟩
  try dsimp only
  -- k0_part148 (composite)
  rw [wp_bind]
  iapply (part148_spec m K c v2 fo (((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))))
  isplitl [H_owes]
  · iexact H_owes
  isplitl []
  · iexact Hlev
  isplitl [F_copyRes_agS_0]
  · iexact F_copyRes_agS_0
  isplitl [F_outShare_0]
  · iexact F_outShare_0
  isplitl [F_peerOut_0]
  · iexact F_peerOut_0
  isplitl [F_recvRes_agS_0]
  · iexact F_recvRes_agS_0
  isplitl [F_recvRes_rsR_1]
  · iexact F_recvRes_rsR_1
  isplitl [F_got_rsR_1]
  · iexact F_got_rsR_1
  isplitl [F_out0_1]
  · iexact F_out0_1
  isplitl [F_copyRes_agS_1]
  · iexact F_copyRes_agS_1
  isplitl [F_peerOut_1]
  · iexact F_peerOut_1
  isplitl [F_recvRes_rsS_0]
  · iexact F_recvRes_rsS_0
  isplitl [F_recvRes_rsS_1]
  · iexact F_recvRes_rsS_1
  isplitl [F_recvRes_agR_0]
  · iexact F_recvRes_agR_0
  iintro %r ⟨H_owes, F_recvRes_agS_0, F_got_rsR_1, F_closed_rsR_1, F_outShare0_1, F_recvRes_agS_1, F_got_rsS_0, F_closed_rsS_0, F_got_rsS_1, F_closed_rsS_1, F_recvRes_agR_0, F_got_agR_0, F_closed_agR_0⟩
  obtain ⟨v3005, c1_i32_3836⟩ := r
  try dsimp only
  -- k0_part121
  icases (bigSepL_pop (fun k : Fin 32 => recvRes m K agR c 0 k) 30 31 []) $$ F_recvRes_agR_0 with ⟨T1, F_recvRes_agR_0⟩
  ihave T2 := (bigSepL_one (fun k : Fin 32 => recvRes m K agR c 0 k) 31) $$ F_recvRes_agR_0
  ihave T3 := (bigSepL_one (fun k : Fin 32 => outShareAt m c 0 k) 0) $$ F_outShare0_0
  icases (bigSepL_pop (fun k : Fin 32 => gotAgR m c 0 k) 1 2 [3, 4, 5, 6, 7, 8, 9, 10, 11, 12, 13, 14, 15, 16, 17, 18, 19, 20, 21, 22, 23, 24, 25, 26, 27, 28, 29]) $$ F_got_agR_0 with ⟨T4, F_got_agR_0⟩
  icases (bigSepL_pop (fun k : Fin 32 => gotAgR m c 0 k) 2 3 [4, 5, 6, 7, 8, 9, 10, 11, 12, 13, 14, 15, 16, 17, 18, 19, 20, 21, 22, 23, 24, 25, 26, 27, 28, 29]) $$ F_got_agR_0 with ⟨T5, F_got_agR_0⟩
  icases (bigSepL_pop (fun k : Fin 32 => gotAgR m c 0 k) 3 4 [5, 6, 7, 8, 9, 10, 11, 12, 13, 14, 15, 16, 17, 18, 19, 20, 21, 22, 23, 24, 25, 26, 27, 28, 29]) $$ F_got_agR_0 with ⟨T6, F_got_agR_0⟩
  icases (bigSepL_pop (fun k : Fin 32 => gotAgR m c 0 k) 4 5 [6, 7, 8, 9, 10, 11, 12, 13, 14, 15, 16, 17, 18, 19, 20, 21, 22, 23, 24, 25, 26, 27, 28, 29]) $$ F_got_agR_0 with ⟨T7, F_got_agR_0⟩
  icases (bigSepL_pop (fun k : Fin 32 => gotAgR m c 0 k) 5 6 [7, 8, 9, 10, 11, 12, 13, 14, 15, 16, 17, 18, 19, 20, 21, 22, 23, 24, 25, 26, 27, 28, 29]) $$ F_got_agR_0 with ⟨T8, F_got_agR_0⟩
  icases (bigSepL_pop (fun k : Fin 32 => gotAgR m c 0 k) 6 7 [8, 9, 10, 11, 12, 13, 14, 15, 16, 17, 18, 19, 20, 21, 22, 23, 24, 25, 26, 27, 28, 29]) $$ F_got_agR_0 with ⟨T9, F_got_agR_0⟩
  icases (bigSepL_pop (fun k : Fin 32 => gotAgR m c 0 k) 7 8 [9, 10, 11, 12, 13, 14, 15, 16, 17, 18, 19, 20, 21, 22, 23, 24, 25, 26, 27, 28, 29]) $$ F_got_agR_0 with ⟨T10, F_got_agR_0⟩
  icases (bigSepL_pop (fun k : Fin 32 => gotAgR m c 0 k) 8 9 [10, 11, 12, 13, 14, 15, 16, 17, 18, 19, 20, 21, 22, 23, 24, 25, 26, 27, 28, 29]) $$ F_got_agR_0 with ⟨T11, F_got_agR_0⟩
  icases (bigSepL_pop (fun k : Fin 32 => gotAgR m c 0 k) 9 10 [11, 12, 13, 14, 15, 16, 17, 18, 19, 20, 21, 22, 23, 24, 25, 26, 27, 28, 29]) $$ F_got_agR_0 with ⟨T12, F_got_agR_0⟩
  icases (bigSepL_pop (fun k : Fin 32 => gotAgR m c 0 k) 10 11 [12, 13, 14, 15, 16, 17, 18, 19, 20, 21, 22, 23, 24, 25, 26, 27, 28, 29]) $$ F_got_agR_0 with ⟨T13, F_got_agR_0⟩
  icases (bigSepL_pop (fun k : Fin 32 => gotAgR m c 0 k) 11 12 [13, 14, 15, 16, 17, 18, 19, 20, 21, 22, 23, 24, 25, 26, 27, 28, 29]) $$ F_got_agR_0 with ⟨T14, F_got_agR_0⟩
  icases (bigSepL_pop (fun k : Fin 32 => gotAgR m c 0 k) 12 13 [14, 15, 16, 17, 18, 19, 20, 21, 22, 23, 24, 25, 26, 27, 28, 29]) $$ F_got_agR_0 with ⟨T15, F_got_agR_0⟩
  icases (bigSepL_pop (fun k : Fin 32 => gotAgR m c 0 k) 13 14 [15, 16, 17, 18, 19, 20, 21, 22, 23, 24, 25, 26, 27, 28, 29]) $$ F_got_agR_0 with ⟨T16, F_got_agR_0⟩
  icases (bigSepL_pop (fun k : Fin 32 => gotAgR m c 0 k) 14 15 [16, 17, 18, 19, 20, 21, 22, 23, 24, 25, 26, 27, 28, 29]) $$ F_got_agR_0 with ⟨T17, F_got_agR_0⟩
  icases (bigSepL_pop (fun k : Fin 32 => gotAgR m c 0 k) 15 16 [17, 18, 19, 20, 21, 22, 23, 24, 25, 26, 27, 28, 29]) $$ F_got_agR_0 with ⟨T18, F_got_agR_0⟩
  icases (bigSepL_pop (fun k : Fin 32 => gotAgR m c 0 k) 16 17 [18, 19, 20, 21, 22, 23, 24, 25, 26, 27, 28, 29]) $$ F_got_agR_0 with ⟨T19, F_got_agR_0⟩
  icases (bigSepL_pop (fun k : Fin 32 => gotAgR m c 0 k) 17 18 [19, 20, 21, 22, 23, 24, 25, 26, 27, 28, 29]) $$ F_got_agR_0 with ⟨T20, F_got_agR_0⟩
  icases (bigSepL_pop (fun k : Fin 32 => gotAgR m c 0 k) 18 19 [20, 21, 22, 23, 24, 25, 26, 27, 28, 29]) $$ F_got_agR_0 with ⟨T21, F_got_agR_0⟩
  icases (bigSepL_pop (fun k : Fin 32 => gotAgR m c 0 k) 19 20 [21, 22, 23, 24, 25, 26, 27, 28, 29]) $$ F_got_agR_0 with ⟨T22, F_got_agR_0⟩
  icases (bigSepL_pop (fun k : Fin 32 => gotAgR m c 0 k) 20 21 [22, 23, 24, 25, 26, 27, 28, 29]) $$ F_got_agR_0 with ⟨T23, F_got_agR_0⟩
  icases (bigSepL_pop (fun k : Fin 32 => gotAgR m c 0 k) 21 22 [23, 24, 25, 26, 27, 28, 29]) $$ F_got_agR_0 with ⟨T24, F_got_agR_0⟩
  icases (bigSepL_pop (fun k : Fin 32 => gotAgR m c 0 k) 22 23 [24, 25, 26, 27, 28, 29]) $$ F_got_agR_0 with ⟨T25, F_got_agR_0⟩
  icases (bigSepL_pop (fun k : Fin 32 => gotAgR m c 0 k) 23 24 [25, 26, 27, 28, 29]) $$ F_got_agR_0 with ⟨T26, F_got_agR_0⟩
  icases (bigSepL_pop (fun k : Fin 32 => gotAgR m c 0 k) 24 25 [26, 27, 28, 29]) $$ F_got_agR_0 with ⟨T27, F_got_agR_0⟩
  icases (bigSepL_pop (fun k : Fin 32 => gotAgR m c 0 k) 25 26 [27, 28, 29]) $$ F_got_agR_0 with ⟨T28, F_got_agR_0⟩
  icases (bigSepL_pop (fun k : Fin 32 => gotAgR m c 0 k) 26 27 [28, 29]) $$ F_got_agR_0 with ⟨T29, F_got_agR_0⟩
  icases (bigSepL_pop (fun k : Fin 32 => gotAgR m c 0 k) 27 28 [29]) $$ F_got_agR_0 with ⟨T30, F_got_agR_0⟩
  icases (bigSepL_pop (fun k : Fin 32 => gotAgR m c 0 k) 28 29 []) $$ F_got_agR_0 with ⟨T31, F_got_agR_0⟩
  ihave T32 := (bigSepL_one (fun k : Fin 32 => gotAgR m c 0 k) 29) $$ F_got_agR_0
  rw [wp_bind]
  iapply (part121_spec' m K c _ _ _ f2 (insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T1]
  · iexact T1
  isplitl [T2]
  · iexact T2
  isplitl []
  · iexact Hlev
  isplitl [T3]
  · iexact T3
  isplitl [T4]
  · iexact T4
  isplitl [T5]
  · iexact T5
  isplitl [T6]
  · iexact T6
  isplitl [T7]
  · iexact T7
  isplitl [T8]
  · iexact T8
  isplitl [T9]
  · iexact T9
  isplitl [T10]
  · iexact T10
  isplitl [T11]
  · iexact T11
  isplitl [T12]
  · iexact T12
  isplitl [T13]
  · iexact T13
  isplitl [T14]
  · iexact T14
  isplitl [T15]
  · iexact T15
  isplitl [T16]
  · iexact T16
  isplitl [T17]
  · iexact T17
  isplitl [T18]
  · iexact T18
  isplitl [T19]
  · iexact T19
  isplitl [T20]
  · iexact T20
  isplitl [T21]
  · iexact T21
  isplitl [T22]
  · iexact T22
  isplitl [T23]
  · iexact T23
  isplitl [T24]
  · iexact T24
  isplitl [T25]
  · iexact T25
  isplitl [T26]
  · iexact T26
  isplitl [T27]
  · iexact T27
  isplitl [T28]
  · iexact T28
  isplitl [T29]
  · iexact T29
  isplitl [T30]
  · iexact T30
  isplitl [T31]
  · iexact T31
  isplitl [T32]
  · iexact T32
  isplitl [F_stg2]
  · iexact F_stg2
  isplitl [H_owes]
  · iexact H_owes
  iintro %r ⟨P33, P34, P35, P36, P37, P38, P39, P40, P41, P42, P43, P44, P45, P46, P47, P48, P49, P50, P51, P52, P53, P54, P55, P56, P57, P58, P59, P60, P61, P62, P63, P64, P65, P66, F_stg2mid, H_owes⟩
  obtain ⟨v3033, c0_i32_3867⟩ := r
  try dsimp only
  ihave F_outShare0_0 := (bigSepL_wrap (fun k : Fin 32 => outShareAt m c 0 k) 0) $$ P33
  ihave F_got_agR_0 := (bigSepL_wrap (fun k : Fin 32 => gotAgR m c 0 k) 1) $$ P34
  ihave F_got_agR_0 := (bigSepL_snoc (fun k : Fin 32 => gotAgR m c 0 k) [1] 2 [1, 2] rfl) $$ [F_got_agR_0 P35]
  · isplitl [F_got_agR_0] <;> iassumption
  ihave F_got_agR_0 := (bigSepL_snoc (fun k : Fin 32 => gotAgR m c 0 k) [1, 2] 3 [1, 2, 3] rfl) $$ [F_got_agR_0 P36]
  · isplitl [F_got_agR_0] <;> iassumption
  ihave F_got_agR_0 := (bigSepL_snoc (fun k : Fin 32 => gotAgR m c 0 k) [1, 2, 3] 4 [1, 2, 3, 4] rfl) $$ [F_got_agR_0 P37]
  · isplitl [F_got_agR_0] <;> iassumption
  ihave F_got_agR_0 := (bigSepL_snoc (fun k : Fin 32 => gotAgR m c 0 k) [1, 2, 3, 4] 5 [1, 2, 3, 4, 5] rfl) $$ [F_got_agR_0 P38]
  · isplitl [F_got_agR_0] <;> iassumption
  ihave F_got_agR_0 := (bigSepL_snoc (fun k : Fin 32 => gotAgR m c 0 k) [1, 2, 3, 4, 5] 6 [1, 2, 3, 4, 5, 6] rfl) $$ [F_got_agR_0 P39]
  · isplitl [F_got_agR_0] <;> iassumption
  ihave F_got_agR_0 := (bigSepL_snoc (fun k : Fin 32 => gotAgR m c 0 k) [1, 2, 3, 4, 5, 6] 7 [1, 2, 3, 4, 5, 6, 7] rfl) $$ [F_got_agR_0 P40]
  · isplitl [F_got_agR_0] <;> iassumption
  ihave F_got_agR_0 := (bigSepL_snoc (fun k : Fin 32 => gotAgR m c 0 k) [1, 2, 3, 4, 5, 6, 7] 8 [1, 2, 3, 4, 5, 6, 7, 8] rfl) $$ [F_got_agR_0 P41]
  · isplitl [F_got_agR_0] <;> iassumption
  ihave F_got_agR_0 := (bigSepL_snoc (fun k : Fin 32 => gotAgR m c 0 k) [1, 2, 3, 4, 5, 6, 7, 8] 9 [1, 2, 3, 4, 5, 6, 7, 8, 9] rfl) $$ [F_got_agR_0 P42]
  · isplitl [F_got_agR_0] <;> iassumption
  ihave F_got_agR_0 := (bigSepL_snoc (fun k : Fin 32 => gotAgR m c 0 k) [1, 2, 3, 4, 5, 6, 7, 8, 9] 10 [1, 2, 3, 4, 5, 6, 7, 8, 9, 10] rfl) $$ [F_got_agR_0 P43]
  · isplitl [F_got_agR_0] <;> iassumption
  ihave F_got_agR_0 := (bigSepL_snoc (fun k : Fin 32 => gotAgR m c 0 k) [1, 2, 3, 4, 5, 6, 7, 8, 9, 10] 11 [1, 2, 3, 4, 5, 6, 7, 8, 9, 10, 11] rfl) $$ [F_got_agR_0 P44]
  · isplitl [F_got_agR_0] <;> iassumption
  ihave F_got_agR_0 := (bigSepL_snoc (fun k : Fin 32 => gotAgR m c 0 k) [1, 2, 3, 4, 5, 6, 7, 8, 9, 10, 11] 12 [1, 2, 3, 4, 5, 6, 7, 8, 9, 10, 11, 12] rfl) $$ [F_got_agR_0 P45]
  · isplitl [F_got_agR_0] <;> iassumption
  ihave F_got_agR_0 := (bigSepL_snoc (fun k : Fin 32 => gotAgR m c 0 k) [1, 2, 3, 4, 5, 6, 7, 8, 9, 10, 11, 12] 13 [1, 2, 3, 4, 5, 6, 7, 8, 9, 10, 11, 12, 13] rfl) $$ [F_got_agR_0 P46]
  · isplitl [F_got_agR_0] <;> iassumption
  ihave F_got_agR_0 := (bigSepL_snoc (fun k : Fin 32 => gotAgR m c 0 k) [1, 2, 3, 4, 5, 6, 7, 8, 9, 10, 11, 12, 13] 14 [1, 2, 3, 4, 5, 6, 7, 8, 9, 10, 11, 12, 13, 14] rfl) $$ [F_got_agR_0 P47]
  · isplitl [F_got_agR_0] <;> iassumption
  ihave F_got_agR_0 := (bigSepL_snoc (fun k : Fin 32 => gotAgR m c 0 k) [1, 2, 3, 4, 5, 6, 7, 8, 9, 10, 11, 12, 13, 14] 15 [1, 2, 3, 4, 5, 6, 7, 8, 9, 10, 11, 12, 13, 14, 15] rfl) $$ [F_got_agR_0 P48]
  · isplitl [F_got_agR_0] <;> iassumption
  ihave F_got_agR_0 := (bigSepL_snoc (fun k : Fin 32 => gotAgR m c 0 k) [1, 2, 3, 4, 5, 6, 7, 8, 9, 10, 11, 12, 13, 14, 15] 16 [1, 2, 3, 4, 5, 6, 7, 8, 9, 10, 11, 12, 13, 14, 15, 16] rfl) $$ [F_got_agR_0 P49]
  · isplitl [F_got_agR_0] <;> iassumption
  ihave F_got_agR_0 := (bigSepL_snoc (fun k : Fin 32 => gotAgR m c 0 k) [1, 2, 3, 4, 5, 6, 7, 8, 9, 10, 11, 12, 13, 14, 15, 16] 17 [1, 2, 3, 4, 5, 6, 7, 8, 9, 10, 11, 12, 13, 14, 15, 16, 17] rfl) $$ [F_got_agR_0 P50]
  · isplitl [F_got_agR_0] <;> iassumption
  ihave F_got_agR_0 := (bigSepL_snoc (fun k : Fin 32 => gotAgR m c 0 k) [1, 2, 3, 4, 5, 6, 7, 8, 9, 10, 11, 12, 13, 14, 15, 16, 17] 18 [1, 2, 3, 4, 5, 6, 7, 8, 9, 10, 11, 12, 13, 14, 15, 16, 17, 18] rfl) $$ [F_got_agR_0 P51]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_got_agR_0 P52]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_got_agR_0 P53]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_got_agR_0 P54]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_got_agR_0 P55]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_got_agR_0 P56]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_got_agR_0 P57]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_got_agR_0 P58]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_got_agR_0 P59]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_got_agR_0 P60]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_got_agR_0 P61]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_got_agR_0 P62]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_got_agR_0 P63]
  · isplitl [F_got_agR_0] <;> iassumption
  ihave F_got_agR_0 := (bigSepL_snoc (fun k : Fin 32 => gotAgR m c 0 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_got_agR_0 P64]
  · isplitl [F_got_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_closed_agR_0 P65]
  · isplitl [F_closed_agR_0] <;> iassumption
  ihave F_closed_agR_0 := (bigSepL_snoc (fun k : Fin 32 => closedAt m K c 0 k agR) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_closed_agR_0 P66]
  · isplitl [F_closed_agR_0] <;> iassumption
  -- k0_part122
  icases (bigSepL_pop (fun k : Fin 32 => recvRes m K agR c 1 k) 1 2 [3, 4, 5, 6, 7, 8, 9, 10, 11, 12, 13, 14, 15, 16, 17, 18, 19, 20, 21, 22, 23, 24, 25, 26, 27, 28, 29, 30, 31]) $$ F_recvRes_agR_1 with ⟨T67, F_recvRes_agR_1⟩
  icases (bigSepL_pop (fun k : Fin 32 => recvRes m K agR c 1 k) 2 3 [4, 5, 6, 7, 8, 9, 10, 11, 12, 13, 14, 15, 16, 17, 18, 19, 20, 21, 22, 23, 24, 25, 26, 27, 28, 29, 30, 31]) $$ F_recvRes_agR_1 with ⟨T68, F_recvRes_agR_1⟩
  icases (bigSepL_pop (fun k : Fin 32 => recvRes m K agR c 1 k) 3 4 [5, 6, 7, 8, 9, 10, 11, 12, 13, 14, 15, 16, 17, 18, 19, 20, 21, 22, 23, 24, 25, 26, 27, 28, 29, 30, 31]) $$ F_recvRes_agR_1 with ⟨T69, F_recvRes_agR_1⟩
  rw [wp_bind]
  iapply (part122_spec' m K c _ _ _ (insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T67]
  · iexact T67
  isplitl [T68]
  · iexact T68
  isplitl [T69]
  · iexact T69
  isplitl []
  · iexact Hlev
  isplitl [H_owes]
  · iexact H_owes
  iintro %v3061 ⟨P70, P71, P72, P73, P74, P75, H_owes⟩
  try dsimp only
  ihave F_got_agR_1 := (bigSepL_wrap (fun k : Fin 32 => gotAgR m c 1 k) 1) $$ P70
  ihave F_closed_agR_1 := (bigSepL_wrap (fun k : Fin 32 => closedAt m K c 1 k agR) 1) $$ P71
  ihave F_got_agR_1 := (bigSepL_snoc (fun k : Fin 32 => gotAgR m c 1 k) [1] 2 [1, 2] rfl) $$ [F_got_agR_1 P72]
  · isplitl [F_got_agR_1] <;> iassumption
  ihave F_closed_agR_1 := (bigSepL_snoc (fun k : Fin 32 => closedAt m K c 1 k agR) [1] 2 [1, 2] rfl) $$ [F_closed_agR_1 P73]
  · isplitl [F_closed_agR_1] <;> iassumption
  ihave F_got_agR_1 := (bigSepL_snoc (fun k : Fin 32 => gotAgR m c 1 k) [1, 2] 3 [1, 2, 3] rfl) $$ [F_got_agR_1 P74]
  · isplitl [F_got_agR_1] <;> iassumption
  ihave F_closed_agR_1 := (bigSepL_snoc (fun k : Fin 32 => closedAt m K c 1 k agR) [1, 2] 3 [1, 2, 3] rfl) $$ [F_closed_agR_1 P75]
  · isplitl [F_closed_agR_1] <;> iassumption
  -- k0_part123
  icases (bigSepL_pop (fun k : Fin 32 => recvRes m K agR c 1 k) 4 5 [6, 7, 8, 9, 10, 11, 12, 13, 14, 15, 16, 17, 18, 19, 20, 21, 22, 23, 24, 25, 26, 27, 28, 29, 30, 31]) $$ F_recvRes_agR_1 with ⟨T76, F_recvRes_agR_1⟩
  icases (bigSepL_pop (fun k : Fin 32 => recvRes m K agR c 1 k) 5 6 [7, 8, 9, 10, 11, 12, 13, 14, 15, 16, 17, 18, 19, 20, 21, 22, 23, 24, 25, 26, 27, 28, 29, 30, 31]) $$ F_recvRes_agR_1 with ⟨T77, F_recvRes_agR_1⟩
  rw [wp_bind]
  iapply (part123_spec' m K c _ _ (insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T76]
  · iexact T76
  isplitl [T77]
  · iexact T77
  isplitl []
  · iexact Hlev
  isplitl [H_owes]
  · iexact H_owes
  iintro %v3085 ⟨P78, P79, P80, P81, H_owes⟩
  try dsimp only
  ihave F_got_agR_1 := (bigSepL_snoc (fun k : Fin 32 => gotAgR m c 1 k) [1, 2, 3] 4 [1, 2, 3, 4] rfl) $$ [F_got_agR_1 P78]
  · isplitl [F_got_agR_1] <;> iassumption
  ihave F_closed_agR_1 := (bigSepL_snoc (fun k : Fin 32 => closedAt m K c 1 k agR) [1, 2, 3] 4 [1, 2, 3, 4] rfl) $$ [F_closed_agR_1 P79]
  · isplitl [F_closed_agR_1] <;> iassumption
  ihave F_got_agR_1 := (bigSepL_snoc (fun k : Fin 32 => gotAgR m c 1 k) [1, 2, 3, 4] 5 [1, 2, 3, 4, 5] rfl) $$ [F_got_agR_1 P80]
  · isplitl [F_got_agR_1] <;> iassumption
  ihave F_closed_agR_1 := (bigSepL_snoc (fun k : Fin 32 => closedAt m K c 1 k agR) [1, 2, 3, 4] 5 [1, 2, 3, 4, 5] rfl) $$ [F_closed_agR_1 P81]
  · isplitl [F_closed_agR_1] <;> iassumption
  -- k0_part124
  icases (bigSepL_pop (fun k : Fin 32 => recvRes m K agR c 1 k) 6 7 [8, 9, 10, 11, 12, 13, 14, 15, 16, 17, 18, 19, 20, 21, 22, 23, 24, 25, 26, 27, 28, 29, 30, 31]) $$ F_recvRes_agR_1 with ⟨T82, F_recvRes_agR_1⟩
  icases (bigSepL_pop (fun k : Fin 32 => recvRes m K agR c 1 k) 7 8 [9, 10, 11, 12, 13, 14, 15, 16, 17, 18, 19, 20, 21, 22, 23, 24, 25, 26, 27, 28, 29, 30, 31]) $$ F_recvRes_agR_1 with ⟨T83, F_recvRes_agR_1⟩
  rw [wp_bind]
  iapply (part124_spec' m K c _ _ (insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T82]
  · iexact T82
  isplitl [T83]
  · iexact T83
  isplitl []
  · iexact Hlev
  isplitl [H_owes]
  · iexact H_owes
  iintro %r ⟨P84, P85, P86, P87, H_owes⟩
  try dsimp only
  ihave F_got_agR_1 := (bigSepL_snoc (fun k : Fin 32 => gotAgR m c 1 k) [1, 2, 3, 4, 5] 6 [1, 2, 3, 4, 5, 6] rfl) $$ [F_got_agR_1 P84]
  · isplitl [F_got_agR_1] <;> iassumption
  ihave F_closed_agR_1 := (bigSepL_snoc (fun k : Fin 32 => closedAt m K c 1 k agR) [1, 2, 3, 4, 5] 6 [1, 2, 3, 4, 5, 6] rfl) $$ [F_closed_agR_1 P85]
  · isplitl [F_closed_agR_1] <;> iassumption
  ihave F_got_agR_1 := (bigSepL_snoc (fun k : Fin 32 => gotAgR m c 1 k) [1, 2, 3, 4, 5, 6] 7 [1, 2, 3, 4, 5, 6, 7] rfl) $$ [F_got_agR_1 P86]
  · isplitl [F_got_agR_1] <;> iassumption
  ihave F_closed_agR_1 := (bigSepL_snoc (fun k : Fin 32 => closedAt m K c 1 k agR) [1, 2, 3, 4, 5, 6] 7 [1, 2, 3, 4, 5, 6, 7] rfl) $$ [F_closed_agR_1 P87]
  · isplitl [F_closed_agR_1] <;> iassumption
  -- k0_part125
  icases (bigSepL_pop (fun k : Fin 32 => recvRes m K agR c 1 k) 8 9 [10, 11, 12, 13, 14, 15, 16, 17, 18, 19, 20, 21, 22, 23, 24, 25, 26, 27, 28, 29, 30, 31]) $$ F_recvRes_agR_1 with ⟨T88, F_recvRes_agR_1⟩
  icases (bigSepL_pop (fun k : Fin 32 => recvRes m K agR c 1 k) 9 10 [11, 12, 13, 14, 15, 16, 17, 18, 19, 20, 21, 22, 23, 24, 25, 26, 27, 28, 29, 30, 31]) $$ F_recvRes_agR_1 with ⟨T89, F_recvRes_agR_1⟩
  icases (bigSepL_pop (fun k : Fin 32 => recvRes m K agR c 1 k) 10 11 [12, 13, 14, 15, 16, 17, 18, 19, 20, 21, 22, 23, 24, 25, 26, 27, 28, 29, 30, 31]) $$ F_recvRes_agR_1 with ⟨T90, F_recvRes_agR_1⟩
  rw [wp_bind]
  iapply (part125_spec' m K c _ (insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T88]
  · iexact T88
  isplitl [T89]
  · iexact T89
  isplitl [T90]
  · iexact T90
  isplitl []
  · iexact Hlev
  isplitl [H_owes]
  · iexact H_owes
  iintro %r ⟨P91, P92, P93, P94, P95, P96, H_owes⟩
  obtain ⟨v3140, c32_i32_3990⟩ := r
  try dsimp only
  ihave F_got_agR_1 := (bigSepL_snoc (fun k : Fin 32 => gotAgR m c 1 k) [1, 2, 3, 4, 5, 6, 7] 8 [1, 2, 3, 4, 5, 6, 7, 8] rfl) $$ [F_got_agR_1 P91]
  · isplitl [F_got_agR_1] <;> iassumption
  ihave F_closed_agR_1 := (bigSepL_snoc (fun k : Fin 32 => closedAt m K c 1 k agR) [1, 2, 3, 4, 5, 6, 7] 8 [1, 2, 3, 4, 5, 6, 7, 8] rfl) $$ [F_closed_agR_1 P92]
  · isplitl [F_closed_agR_1] <;> iassumption
  ihave F_got_agR_1 := (bigSepL_snoc (fun k : Fin 32 => gotAgR m c 1 k) [1, 2, 3, 4, 5, 6, 7, 8] 9 [1, 2, 3, 4, 5, 6, 7, 8, 9] rfl) $$ [F_got_agR_1 P93]
  · isplitl [F_got_agR_1] <;> iassumption
  ihave F_closed_agR_1 := (bigSepL_snoc (fun k : Fin 32 => closedAt m K c 1 k agR) [1, 2, 3, 4, 5, 6, 7, 8] 9 [1, 2, 3, 4, 5, 6, 7, 8, 9] rfl) $$ [F_closed_agR_1 P94]
  · isplitl [F_closed_agR_1] <;> iassumption
  ihave F_got_agR_1 := (bigSepL_snoc (fun k : Fin 32 => gotAgR m c 1 k) [1, 2, 3, 4, 5, 6, 7, 8, 9] 10 [1, 2, 3, 4, 5, 6, 7, 8, 9, 10] rfl) $$ [F_got_agR_1 P95]
  · isplitl [F_got_agR_1] <;> iassumption
  ihave F_closed_agR_1 := (bigSepL_snoc (fun k : Fin 32 => closedAt m K c 1 k agR) [1, 2, 3, 4, 5, 6, 7, 8, 9] 10 [1, 2, 3, 4, 5, 6, 7, 8, 9, 10] rfl) $$ [F_closed_agR_1 P96]
  · isplitl [F_closed_agR_1] <;> iassumption
  -- k0_part126
  icases (bigSepL_pop (fun k : Fin 32 => recvRes m K agR c 1 k) 11 12 [13, 14, 15, 16, 17, 18, 19, 20, 21, 22, 23, 24, 25, 26, 27, 28, 29, 30, 31]) $$ F_recvRes_agR_1 with ⟨T97, F_recvRes_agR_1⟩
  icases (bigSepL_pop (fun k : Fin 32 => recvRes m K agR c 1 k) 12 13 [14, 15, 16, 17, 18, 19, 20, 21, 22, 23, 24, 25, 26, 27, 28, 29, 30, 31]) $$ F_recvRes_agR_1 with ⟨T98, F_recvRes_agR_1⟩
  rw [wp_bind]
  iapply (part126_spec' m K c _ _ _ (insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T97]
  · iexact T97
  isplitl [T98]
  · iexact T98
  isplitl []
  · iexact Hlev
  isplitl [H_owes]
  · iexact H_owes
  iintro %r ⟨P99, P100, P101, P102, H_owes⟩
  obtain ⟨v3165, c0_i32_4023⟩ := r
  try dsimp only
  ihave F_got_agR_1 := (bigSepL_snoc (fun k : Fin 32 => gotAgR m c 1 k) [1, 2, 3, 4, 5, 6, 7, 8, 9, 10] 11 [1, 2, 3, 4, 5, 6, 7, 8, 9, 10, 11] rfl) $$ [F_got_agR_1 P99]
  · isplitl [F_got_agR_1] <;> iassumption
  ihave F_closed_agR_1 := (bigSepL_snoc (fun k : Fin 32 => closedAt m K c 1 k agR) [1, 2, 3, 4, 5, 6, 7, 8, 9, 10] 11 [1, 2, 3, 4, 5, 6, 7, 8, 9, 10, 11] rfl) $$ [F_closed_agR_1 P100]
  · isplitl [F_closed_agR_1] <;> iassumption
  ihave F_got_agR_1 := (bigSepL_snoc (fun k : Fin 32 => gotAgR m c 1 k) [1, 2, 3, 4, 5, 6, 7, 8, 9, 10, 11] 12 [1, 2, 3, 4, 5, 6, 7, 8, 9, 10, 11, 12] rfl) $$ [F_got_agR_1 P101]
  · isplitl [F_got_agR_1] <;> iassumption
  ihave F_closed_agR_1 := (bigSepL_snoc (fun k : Fin 32 => closedAt m K c 1 k agR) [1, 2, 3, 4, 5, 6, 7, 8, 9, 10, 11] 12 [1, 2, 3, 4, 5, 6, 7, 8, 9, 10, 11, 12] rfl) $$ [F_closed_agR_1 P102]
  · isplitl [F_closed_agR_1] <;> iassumption
  -- k0_part127
  icases (bigSepL_pop (fun k : Fin 32 => recvRes m K agR c 1 k) 13 14 [15, 16, 17, 18, 19, 20, 21, 22, 23, 24, 25, 26, 27, 28, 29, 30, 31]) $$ F_recvRes_agR_1 with ⟨T103, F_recvRes_agR_1⟩
  icases (bigSepL_pop (fun k : Fin 32 => recvRes m K agR c 1 k) 14 15 [16, 17, 18, 19, 20, 21, 22, 23, 24, 25, 26, 27, 28, 29, 30, 31]) $$ F_recvRes_agR_1 with ⟨T104, F_recvRes_agR_1⟩
  icases (bigSepL_pop (fun k : Fin 32 => recvRes m K agR c 1 k) 15 16 [17, 18, 19, 20, 21, 22, 23, 24, 25, 26, 27, 28, 29, 30, 31]) $$ F_recvRes_agR_1 with ⟨T105, F_recvRes_agR_1⟩
  rw [wp_bind]
  iapply (part127_spec' m K c _ _ _ (insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T103]
  · iexact T103
  isplitl [T104]
  · iexact T104
  isplitl [T105]
  · iexact T105
  isplitl []
  · iexact Hlev
  isplitl [H_owes]
  · iexact H_owes
  iintro %v3193 ⟨P106, P107, P108, P109, P110, P111, H_owes⟩
  try dsimp only
  ihave F_got_agR_1 := (bigSepL_snoc (fun k : Fin 32 => gotAgR m c 1 k) [1, 2, 3, 4, 5, 6, 7, 8, 9, 10, 11, 12] 13 [1, 2, 3, 4, 5, 6, 7, 8, 9, 10, 11, 12, 13] rfl) $$ [F_got_agR_1 P106]
  · isplitl [F_got_agR_1] <;> iassumption
  ihave F_closed_agR_1 := (bigSepL_snoc (fun k : Fin 32 => closedAt m K c 1 k agR) [1, 2, 3, 4, 5, 6, 7, 8, 9, 10, 11, 12] 13 [1, 2, 3, 4, 5, 6, 7, 8, 9, 10, 11, 12, 13] rfl) $$ [F_closed_agR_1 P107]
  · isplitl [F_closed_agR_1] <;> iassumption
  ihave F_got_agR_1 := (bigSepL_snoc (fun k : Fin 32 => gotAgR m c 1 k) [1, 2, 3, 4, 5, 6, 7, 8, 9, 10, 11, 12, 13] 14 [1, 2, 3, 4, 5, 6, 7, 8, 9, 10, 11, 12, 13, 14] rfl) $$ [F_got_agR_1 P108]
  · isplitl [F_got_agR_1] <;> iassumption
  ihave F_closed_agR_1 := (bigSepL_snoc (fun k : Fin 32 => closedAt m K c 1 k agR) [1, 2, 3, 4, 5, 6, 7, 8, 9, 10, 11, 12, 13] 14 [1, 2, 3, 4, 5, 6, 7, 8, 9, 10, 11, 12, 13, 14] rfl) $$ [F_closed_agR_1 P109]
  · isplitl [F_closed_agR_1] <;> iassumption
  ihave F_got_agR_1 := (bigSepL_snoc (fun k : Fin 32 => gotAgR m c 1 k) [1, 2, 3, 4, 5, 6, 7, 8, 9, 10, 11, 12, 13, 14] 15 [1, 2, 3, 4, 5, 6, 7, 8, 9, 10, 11, 12, 13, 14, 15] rfl) $$ [F_got_agR_1 P110]
  · isplitl [F_got_agR_1] <;> iassumption
  ihave F_closed_agR_1 := (bigSepL_snoc (fun k : Fin 32 => closedAt m K c 1 k agR) [1, 2, 3, 4, 5, 6, 7, 8, 9, 10, 11, 12, 13, 14] 15 [1, 2, 3, 4, 5, 6, 7, 8, 9, 10, 11, 12, 13, 14, 15] rfl) $$ [F_closed_agR_1 P111]
  · isplitl [F_closed_agR_1] <;> iassumption
  -- k0_part128
  icases (bigSepL_pop (fun k : Fin 32 => recvRes m K agR c 1 k) 16 17 [18, 19, 20, 21, 22, 23, 24, 25, 26, 27, 28, 29, 30, 31]) $$ F_recvRes_agR_1 with ⟨T112, F_recvRes_agR_1⟩
  icases (bigSepL_pop (fun k : Fin 32 => recvRes m K agR c 1 k) 17 18 [19, 20, 21, 22, 23, 24, 25, 26, 27, 28, 29, 30, 31]) $$ F_recvRes_agR_1 with ⟨T113, F_recvRes_agR_1⟩
  rw [wp_bind]
  iapply (part128_spec' m K c _ _ (insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T112]
  · iexact T112
  isplitl [T113]
  · iexact T113
  isplitl []
  · iexact Hlev
  isplitl [H_owes]
  · iexact H_owes
  iintro %v3217 ⟨P114, P115, P116, P117, H_owes⟩
  try dsimp only
  ihave F_got_agR_1 := (bigSepL_snoc (fun k : Fin 32 => gotAgR m c 1 k) [1, 2, 3, 4, 5, 6, 7, 8, 9, 10, 11, 12, 13, 14, 15] 16 [1, 2, 3, 4, 5, 6, 7, 8, 9, 10, 11, 12, 13, 14, 15, 16] rfl) $$ [F_got_agR_1 P114]
  · isplitl [F_got_agR_1] <;> iassumption
  ihave F_closed_agR_1 := (bigSepL_snoc (fun k : Fin 32 => closedAt m K c 1 k agR) [1, 2, 3, 4, 5, 6, 7, 8, 9, 10, 11, 12, 13, 14, 15] 16 [1, 2, 3, 4, 5, 6, 7, 8, 9, 10, 11, 12, 13, 14, 15, 16] rfl) $$ [F_closed_agR_1 P115]
  · isplitl [F_closed_agR_1] <;> iassumption
  ihave F_got_agR_1 := (bigSepL_snoc (fun k : Fin 32 => gotAgR m c 1 k) [1, 2, 3, 4, 5, 6, 7, 8, 9, 10, 11, 12, 13, 14, 15, 16] 17 [1, 2, 3, 4, 5, 6, 7, 8, 9, 10, 11, 12, 13, 14, 15, 16, 17] rfl) $$ [F_got_agR_1 P116]
  · isplitl [F_got_agR_1] <;> iassumption
  ihave F_closed_agR_1 := (bigSepL_snoc (fun k : Fin 32 => closedAt m K c 1 k agR) [1, 2, 3, 4, 5, 6, 7, 8, 9, 10, 11, 12, 13, 14, 15, 16] 17 [1, 2, 3, 4, 5, 6, 7, 8, 9, 10, 11, 12, 13, 14, 15, 16, 17] rfl) $$ [F_closed_agR_1 P117]
  · isplitl [F_closed_agR_1] <;> iassumption
  -- k0_part129
  icases (bigSepL_pop (fun k : Fin 32 => recvRes m K agR c 1 k) 18 19 [20, 21, 22, 23, 24, 25, 26, 27, 28, 29, 30, 31]) $$ F_recvRes_agR_1 with ⟨T118, F_recvRes_agR_1⟩
  icases (bigSepL_pop (fun k : Fin 32 => recvRes m K agR c 1 k) 19 20 [21, 22, 23, 24, 25, 26, 27, 28, 29, 30, 31]) $$ F_recvRes_agR_1 with ⟨T119, F_recvRes_agR_1⟩
  rw [wp_bind]
  iapply (part129_spec' m K c _ _ (insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T118]
  · iexact T118
  isplitl [T119]
  · iexact T119
  isplitl []
  · iexact Hlev
  isplitl [H_owes]
  · iexact H_owes
  iintro %r ⟨P120, P121, P122, P123, H_owes⟩
  try dsimp only
  ihave F_got_agR_1 := (bigSepL_snoc (fun k : Fin 32 => gotAgR m c 1 k) [1, 2, 3, 4, 5, 6, 7, 8, 9, 10, 11, 12, 13, 14, 15, 16, 17] 18 [1, 2, 3, 4, 5, 6, 7, 8, 9, 10, 11, 12, 13, 14, 15, 16, 17, 18] rfl) $$ [F_got_agR_1 P120]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17] 18 [1, 2, 3, 4, 5, 6, 7, 8, 9, 10, 11, 12, 13, 14, 15, 16, 17, 18] rfl) $$ [F_closed_agR_1 P121]
  · isplitl [F_closed_agR_1] <;> iassumption
  ihave F_got_agR_1 := (bigSepL_snoc (fun k : Fin 32 => gotAgR m c 1 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_got_agR_1 P122]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_closed_agR_1 P123]
  · isplitl [F_closed_agR_1] <;> iassumption
  -- k0_part130
  icases (bigSepL_pop (fun k : Fin 32 => recvRes m K agR c 1 k) 20 21 [22, 23, 24, 25, 26, 27, 28, 29, 30, 31]) $$ F_recvRes_agR_1 with ⟨T124, F_recvRes_agR_1⟩
  icases (bigSepL_pop (fun k : Fin 32 => recvRes m K agR c 1 k) 21 22 [23, 24, 25, 26, 27, 28, 29, 30, 31]) $$ F_recvRes_agR_1 with ⟨T125, F_recvRes_agR_1⟩
  icases (bigSepL_pop (fun k : Fin 32 => recvRes m K agR c 1 k) 22 23 [24, 25, 26, 27, 28, 29, 30, 31]) $$ F_recvRes_agR_1 with ⟨T126, F_recvRes_agR_1⟩
  rw [wp_bind]
  iapply (part130_spec' m K c _ (insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T124]
  · iexact T124
  isplitl [T125]
  · iexact T125
  isplitl [T126]
  · iexact T126
  isplitl []
  · iexact Hlev
  isplitl [H_owes]
  · iexact H_owes
  iintro %r ⟨P127, P128, P129, P130, P131, P132, H_owes⟩
  obtain ⟨v3272, c32_i32_4146⟩ := r
  try dsimp only
  ihave F_got_agR_1 := (bigSepL_snoc (fun k : Fin 32 => gotAgR m c 1 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_got_agR_1 P127]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_closed_agR_1 P128]
  · isplitl [F_closed_agR_1] <;> iassumption
  ihave F_got_agR_1 := (bigSepL_snoc (fun k : Fin 32 => gotAgR m c 1 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_got_agR_1 P129]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_closed_agR_1 P130]
  · isplitl [F_closed_agR_1] <;> iassumption
  ihave F_got_agR_1 := (bigSepL_snoc (fun k : Fin 32 => gotAgR m c 1 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_got_agR_1 P131]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_closed_agR_1 P132]
  · isplitl [F_closed_agR_1] <;> iassumption
  -- k0_part131
  icases (bigSepL_pop (fun k : Fin 32 => recvRes m K agR c 1 k) 23 24 [25, 26, 27, 28, 29, 30, 31]) $$ F_recvRes_agR_1 with ⟨T133, F_recvRes_agR_1⟩
  icases (bigSepL_pop (fun k : Fin 32 => recvRes m K agR c 1 k) 24 25 [26, 27, 28, 29, 30, 31]) $$ F_recvRes_agR_1 with ⟨T134, F_recvRes_agR_1⟩
  rw [wp_bind]
  iapply (part131_spec' m K c _ _ _ (insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T133]
  · iexact T133
  isplitl [T134]
  · iexact T134
  isplitl []
  · iexact Hlev
  isplitl [H_owes]
  · iexact H_owes
  iintro %r ⟨P135, P136, P137, P138, H_owes⟩
  obtain ⟨v3297, c0_i32_4179⟩ := r
  try dsimp only
  ihave F_got_agR_1 := (bigSepL_snoc (fun k : Fin 32 => gotAgR m c 1 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_got_agR_1 P135]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_closed_agR_1 P136]
  · isplitl [F_closed_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_got_agR_1 P137]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_closed_agR_1 P138]
  · isplitl [F_closed_agR_1] <;> iassumption
  -- k0_part132
  icases (bigSepL_pop (fun k : Fin 32 => recvRes m K agR c 1 k) 25 26 [27, 28, 29, 30, 31]) $$ F_recvRes_agR_1 with ⟨T139, F_recvRes_agR_1⟩
  icases (bigSepL_pop (fun k : Fin 32 => recvRes m K agR c 1 k) 26 27 [28, 29, 30, 31]) $$ F_recvRes_agR_1 with ⟨T140, F_recvRes_agR_1⟩
  icases (bigSepL_pop (fun k : Fin 32 => recvRes m K agR c 1 k) 27 28 [29, 30, 31]) $$ F_recvRes_agR_1 with ⟨T141, F_recvRes_agR_1⟩
  rw [wp_bind]
  iapply (part132_spec' m K c _ _ _ (insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T139]
  · iexact T139
  isplitl [T140]
  · iexact T140
  isplitl [T141]
  · iexact T141
  isplitl []
  · iexact Hlev
  isplitl [H_owes]
  · iexact H_owes
  iintro %v3325 ⟨P142, P143, P144, P145, P146, P147, H_owes⟩
  try dsimp only
  ihave F_got_agR_1 := (bigSepL_snoc (fun k : Fin 32 => gotAgR m c 1 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_got_agR_1 P142]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_closed_agR_1 P143]
  · isplitl [F_closed_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_got_agR_1 P144]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_closed_agR_1 P145]
  · isplitl [F_closed_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_got_agR_1 P146]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_closed_agR_1 P147]
  · isplitl [F_closed_agR_1] <;> iassumption
  -- k0_part133
  icases (bigSepL_pop (fun k : Fin 32 => recvRes m K agR c 1 k) 28 29 [30, 31]) $$ F_recvRes_agR_1 with ⟨T148, F_recvRes_agR_1⟩
  icases (bigSepL_pop (fun k : Fin 32 => recvRes m K agR c 1 k) 29 30 [31]) $$ F_recvRes_agR_1 with ⟨T149, F_recvRes_agR_1⟩
  rw [wp_bind]
  iapply (part133_spec' m K c _ _ (insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T148]
  · iexact T148
  isplitl [T149]
  · iexact T149
  isplitl []
  · iexact Hlev
  isplitl [H_owes]
  · iexact H_owes
  iintro %v3349 ⟨P150, P151, P152, P153, H_owes⟩
  try dsimp only
  ihave F_got_agR_1 := (bigSepL_snoc (fun k : Fin 32 => gotAgR m c 1 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_got_agR_1 P150]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_closed_agR_1 P151]
  · isplitl [F_closed_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_got_agR_1 P152]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_closed_agR_1 P153]
  · isplitl [F_closed_agR_1] <;> iassumption
  -- k0_part134
  icases (bigSepL_pop (fun k : Fin 32 => recvRes m K agR c 1 k) 30 31 []) $$ F_recvRes_agR_1 with ⟨T154, F_recvRes_agR_1⟩
  ihave T155 := (bigSepL_one (fun k : Fin 32 => recvRes m K agR c 1 k) 31) $$ F_recvRes_agR_1
  icases (bigSepL_pop (fun k : Fin 32 => recvRes m K agS c 0 k) 1 2 [3, 4, 5, 6, 7, 8, 9, 10, 11, 12, 13, 14, 15, 16, 17, 18, 19, 20, 21, 22, 23, 24, 25, 26, 27, 28, 29, 30, 31]) $$ F_recvRes_agS_0 with ⟨T156, F_recvRes_agS_0⟩
  ihave T157 := (bigSepL_one (fun k : Fin 32 => outShareAt m c 1 k) 0) $$ F_outShare0_1
  icases (bigSepL_pop (fun k : Fin 32 => gotAgR m c 1 k) 1 2 [3, 4, 5, 6, 7, 8, 9, 10, 11, 12, 13, 14, 15, 16, 17, 18, 19, 20, 21, 22, 23, 24, 25, 26, 27, 28, 29]) $$ F_got_agR_1 with ⟨T158, F_got_agR_1⟩
  icases (bigSepL_pop (fun k : Fin 32 => gotAgR m c 1 k) 2 3 [4, 5, 6, 7, 8, 9, 10, 11, 12, 13, 14, 15, 16, 17, 18, 19, 20, 21, 22, 23, 24, 25, 26, 27, 28, 29]) $$ F_got_agR_1 with ⟨T159, F_got_agR_1⟩
  icases (bigSepL_pop (fun k : Fin 32 => gotAgR m c 1 k) 3 4 [5, 6, 7, 8, 9, 10, 11, 12, 13, 14, 15, 16, 17, 18, 19, 20, 21, 22, 23, 24, 25, 26, 27, 28, 29]) $$ F_got_agR_1 with ⟨T160, F_got_agR_1⟩
  icases (bigSepL_pop (fun k : Fin 32 => gotAgR m c 1 k) 4 5 [6, 7, 8, 9, 10, 11, 12, 13, 14, 15, 16, 17, 18, 19, 20, 21, 22, 23, 24, 25, 26, 27, 28, 29]) $$ F_got_agR_1 with ⟨T161, F_got_agR_1⟩
  icases (bigSepL_pop (fun k : Fin 32 => gotAgR m c 1 k) 5 6 [7, 8, 9, 10, 11, 12, 13, 14, 15, 16, 17, 18, 19, 20, 21, 22, 23, 24, 25, 26, 27, 28, 29]) $$ F_got_agR_1 with ⟨T162, F_got_agR_1⟩
  icases (bigSepL_pop (fun k : Fin 32 => gotAgR m c 1 k) 6 7 [8, 9, 10, 11, 12, 13, 14, 15, 16, 17, 18, 19, 20, 21, 22, 23, 24, 25, 26, 27, 28, 29]) $$ F_got_agR_1 with ⟨T163, F_got_agR_1⟩
  icases (bigSepL_pop (fun k : Fin 32 => gotAgR m c 1 k) 7 8 [9, 10, 11, 12, 13, 14, 15, 16, 17, 18, 19, 20, 21, 22, 23, 24, 25, 26, 27, 28, 29]) $$ F_got_agR_1 with ⟨T164, F_got_agR_1⟩
  icases (bigSepL_pop (fun k : Fin 32 => gotAgR m c 1 k) 8 9 [10, 11, 12, 13, 14, 15, 16, 17, 18, 19, 20, 21, 22, 23, 24, 25, 26, 27, 28, 29]) $$ F_got_agR_1 with ⟨T165, F_got_agR_1⟩
  icases (bigSepL_pop (fun k : Fin 32 => gotAgR m c 1 k) 9 10 [11, 12, 13, 14, 15, 16, 17, 18, 19, 20, 21, 22, 23, 24, 25, 26, 27, 28, 29]) $$ F_got_agR_1 with ⟨T166, F_got_agR_1⟩
  icases (bigSepL_pop (fun k : Fin 32 => gotAgR m c 1 k) 10 11 [12, 13, 14, 15, 16, 17, 18, 19, 20, 21, 22, 23, 24, 25, 26, 27, 28, 29]) $$ F_got_agR_1 with ⟨T167, F_got_agR_1⟩
  icases (bigSepL_pop (fun k : Fin 32 => gotAgR m c 1 k) 11 12 [13, 14, 15, 16, 17, 18, 19, 20, 21, 22, 23, 24, 25, 26, 27, 28, 29]) $$ F_got_agR_1 with ⟨T168, F_got_agR_1⟩
  icases (bigSepL_pop (fun k : Fin 32 => gotAgR m c 1 k) 12 13 [14, 15, 16, 17, 18, 19, 20, 21, 22, 23, 24, 25, 26, 27, 28, 29]) $$ F_got_agR_1 with ⟨T169, F_got_agR_1⟩
  icases (bigSepL_pop (fun k : Fin 32 => gotAgR m c 1 k) 13 14 [15, 16, 17, 18, 19, 20, 21, 22, 23, 24, 25, 26, 27, 28, 29]) $$ F_got_agR_1 with ⟨T170, F_got_agR_1⟩
  icases (bigSepL_pop (fun k : Fin 32 => gotAgR m c 1 k) 14 15 [16, 17, 18, 19, 20, 21, 22, 23, 24, 25, 26, 27, 28, 29]) $$ F_got_agR_1 with ⟨T171, F_got_agR_1⟩
  icases (bigSepL_pop (fun k : Fin 32 => gotAgR m c 1 k) 15 16 [17, 18, 19, 20, 21, 22, 23, 24, 25, 26, 27, 28, 29]) $$ F_got_agR_1 with ⟨T172, F_got_agR_1⟩
  icases (bigSepL_pop (fun k : Fin 32 => gotAgR m c 1 k) 16 17 [18, 19, 20, 21, 22, 23, 24, 25, 26, 27, 28, 29]) $$ F_got_agR_1 with ⟨T173, F_got_agR_1⟩
  icases (bigSepL_pop (fun k : Fin 32 => gotAgR m c 1 k) 17 18 [19, 20, 21, 22, 23, 24, 25, 26, 27, 28, 29]) $$ F_got_agR_1 with ⟨T174, F_got_agR_1⟩
  icases (bigSepL_pop (fun k : Fin 32 => gotAgR m c 1 k) 18 19 [20, 21, 22, 23, 24, 25, 26, 27, 28, 29]) $$ F_got_agR_1 with ⟨T175, F_got_agR_1⟩
  icases (bigSepL_pop (fun k : Fin 32 => gotAgR m c 1 k) 19 20 [21, 22, 23, 24, 25, 26, 27, 28, 29]) $$ F_got_agR_1 with ⟨T176, F_got_agR_1⟩
  icases (bigSepL_pop (fun k : Fin 32 => gotAgR m c 1 k) 20 21 [22, 23, 24, 25, 26, 27, 28, 29]) $$ F_got_agR_1 with ⟨T177, F_got_agR_1⟩
  icases (bigSepL_pop (fun k : Fin 32 => gotAgR m c 1 k) 21 22 [23, 24, 25, 26, 27, 28, 29]) $$ F_got_agR_1 with ⟨T178, F_got_agR_1⟩
  icases (bigSepL_pop (fun k : Fin 32 => gotAgR m c 1 k) 22 23 [24, 25, 26, 27, 28, 29]) $$ F_got_agR_1 with ⟨T179, F_got_agR_1⟩
  icases (bigSepL_pop (fun k : Fin 32 => gotAgR m c 1 k) 23 24 [25, 26, 27, 28, 29]) $$ F_got_agR_1 with ⟨T180, F_got_agR_1⟩
  icases (bigSepL_pop (fun k : Fin 32 => gotAgR m c 1 k) 24 25 [26, 27, 28, 29]) $$ F_got_agR_1 with ⟨T181, F_got_agR_1⟩
  icases (bigSepL_pop (fun k : Fin 32 => gotAgR m c 1 k) 25 26 [27, 28, 29]) $$ F_got_agR_1 with ⟨T182, F_got_agR_1⟩
  icases (bigSepL_pop (fun k : Fin 32 => gotAgR m c 1 k) 26 27 [28, 29]) $$ F_got_agR_1 with ⟨T183, F_got_agR_1⟩
  icases (bigSepL_pop (fun k : Fin 32 => gotAgR m c 1 k) 27 28 [29]) $$ F_got_agR_1 with ⟨T184, F_got_agR_1⟩
  icases (bigSepL_pop (fun k : Fin 32 => gotAgR m c 1 k) 28 29 []) $$ F_got_agR_1 with ⟨T185, F_got_agR_1⟩
  ihave T186 := (bigSepL_one (fun k : Fin 32 => gotAgR m c 1 k) 29) $$ F_got_agR_1
  rw [wp_bind]
  iapply (part134_spec' m K c _ _ f2 (insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T154]
  · iexact T154
  isplitl [T155]
  · iexact T155
  isplitl [T156]
  · iexact T156
  isplitl []
  · iexact Hlev
  isplitl [T157]
  · iexact T157
  isplitl [T158]
  · iexact T158
  isplitl [T159]
  · iexact T159
  isplitl [T160]
  · iexact T160
  isplitl [T161]
  · iexact T161
  isplitl [T162]
  · iexact T162
  isplitl [T163]
  · iexact T163
  isplitl [T164]
  · iexact T164
  isplitl [T165]
  · iexact T165
  isplitl [T166]
  · iexact T166
  isplitl [T167]
  · iexact T167
  isplitl [T168]
  · iexact T168
  isplitl [T169]
  · iexact T169
  isplitl [T170]
  · iexact T170
  isplitl [T171]
  · iexact T171
  isplitl [T172]
  · iexact T172
  isplitl [T173]
  · iexact T173
  isplitl [T174]
  · iexact T174
  isplitl [T175]
  · iexact T175
  isplitl [T176]
  · iexact T176
  isplitl [T177]
  · iexact T177
  isplitl [T178]
  · iexact T178
  isplitl [T179]
  · iexact T179
  isplitl [T180]
  · iexact T180
  isplitl [T181]
  · iexact T181
  isplitl [T182]
  · iexact T182
  isplitl [T183]
  · iexact T183
  isplitl [T184]
  · iexact T184
  isplitl [T185]
  · iexact T185
  isplitl [T186]
  · iexact T186
  isplitl [F_stg2mid]
  · iexact F_stg2mid
  isplitl [H_owes]
  · iexact H_owes
  iintro %r ⟨P187, P188, P189, P190, P191, P192, P193, P194, P195, P196, P197, P198, P199, P200, P201, P202, P203, P204, P205, P206, P207, P208, P209, P210, P211, P212, P213, P214, P215, P216, P217, P218, P219, P220, F_stg2done, P221, P222, H_owes⟩
  try dsimp only
  ihave F_outShare0_1 := (bigSepL_wrap (fun k : Fin 32 => outShareAt m c 1 k) 0) $$ P187
  ihave F_got_agR_1 := (bigSepL_wrap (fun k : Fin 32 => gotAgR m c 1 k) 1) $$ P188
  ihave F_got_agR_1 := (bigSepL_snoc (fun k : Fin 32 => gotAgR m c 1 k) [1] 2 [1, 2] rfl) $$ [F_got_agR_1 P189]
  · isplitl [F_got_agR_1] <;> iassumption
  ihave F_got_agR_1 := (bigSepL_snoc (fun k : Fin 32 => gotAgR m c 1 k) [1, 2] 3 [1, 2, 3] rfl) $$ [F_got_agR_1 P190]
  · isplitl [F_got_agR_1] <;> iassumption
  ihave F_got_agR_1 := (bigSepL_snoc (fun k : Fin 32 => gotAgR m c 1 k) [1, 2, 3] 4 [1, 2, 3, 4] rfl) $$ [F_got_agR_1 P191]
  · isplitl [F_got_agR_1] <;> iassumption
  ihave F_got_agR_1 := (bigSepL_snoc (fun k : Fin 32 => gotAgR m c 1 k) [1, 2, 3, 4] 5 [1, 2, 3, 4, 5] rfl) $$ [F_got_agR_1 P192]
  · isplitl [F_got_agR_1] <;> iassumption
  ihave F_got_agR_1 := (bigSepL_snoc (fun k : Fin 32 => gotAgR m c 1 k) [1, 2, 3, 4, 5] 6 [1, 2, 3, 4, 5, 6] rfl) $$ [F_got_agR_1 P193]
  · isplitl [F_got_agR_1] <;> iassumption
  ihave F_got_agR_1 := (bigSepL_snoc (fun k : Fin 32 => gotAgR m c 1 k) [1, 2, 3, 4, 5, 6] 7 [1, 2, 3, 4, 5, 6, 7] rfl) $$ [F_got_agR_1 P194]
  · isplitl [F_got_agR_1] <;> iassumption
  ihave F_got_agR_1 := (bigSepL_snoc (fun k : Fin 32 => gotAgR m c 1 k) [1, 2, 3, 4, 5, 6, 7] 8 [1, 2, 3, 4, 5, 6, 7, 8] rfl) $$ [F_got_agR_1 P195]
  · isplitl [F_got_agR_1] <;> iassumption
  ihave F_got_agR_1 := (bigSepL_snoc (fun k : Fin 32 => gotAgR m c 1 k) [1, 2, 3, 4, 5, 6, 7, 8] 9 [1, 2, 3, 4, 5, 6, 7, 8, 9] rfl) $$ [F_got_agR_1 P196]
  · isplitl [F_got_agR_1] <;> iassumption
  ihave F_got_agR_1 := (bigSepL_snoc (fun k : Fin 32 => gotAgR m c 1 k) [1, 2, 3, 4, 5, 6, 7, 8, 9] 10 [1, 2, 3, 4, 5, 6, 7, 8, 9, 10] rfl) $$ [F_got_agR_1 P197]
  · isplitl [F_got_agR_1] <;> iassumption
  ihave F_got_agR_1 := (bigSepL_snoc (fun k : Fin 32 => gotAgR m c 1 k) [1, 2, 3, 4, 5, 6, 7, 8, 9, 10] 11 [1, 2, 3, 4, 5, 6, 7, 8, 9, 10, 11] rfl) $$ [F_got_agR_1 P198]
  · isplitl [F_got_agR_1] <;> iassumption
  ihave F_got_agR_1 := (bigSepL_snoc (fun k : Fin 32 => gotAgR m c 1 k) [1, 2, 3, 4, 5, 6, 7, 8, 9, 10, 11] 12 [1, 2, 3, 4, 5, 6, 7, 8, 9, 10, 11, 12] rfl) $$ [F_got_agR_1 P199]
  · isplitl [F_got_agR_1] <;> iassumption
  ihave F_got_agR_1 := (bigSepL_snoc (fun k : Fin 32 => gotAgR m c 1 k) [1, 2, 3, 4, 5, 6, 7, 8, 9, 10, 11, 12] 13 [1, 2, 3, 4, 5, 6, 7, 8, 9, 10, 11, 12, 13] rfl) $$ [F_got_agR_1 P200]
  · isplitl [F_got_agR_1] <;> iassumption
  ihave F_got_agR_1 := (bigSepL_snoc (fun k : Fin 32 => gotAgR m c 1 k) [1, 2, 3, 4, 5, 6, 7, 8, 9, 10, 11, 12, 13] 14 [1, 2, 3, 4, 5, 6, 7, 8, 9, 10, 11, 12, 13, 14] rfl) $$ [F_got_agR_1 P201]
  · isplitl [F_got_agR_1] <;> iassumption
  ihave F_got_agR_1 := (bigSepL_snoc (fun k : Fin 32 => gotAgR m c 1 k) [1, 2, 3, 4, 5, 6, 7, 8, 9, 10, 11, 12, 13, 14] 15 [1, 2, 3, 4, 5, 6, 7, 8, 9, 10, 11, 12, 13, 14, 15] rfl) $$ [F_got_agR_1 P202]
  · isplitl [F_got_agR_1] <;> iassumption
  ihave F_got_agR_1 := (bigSepL_snoc (fun k : Fin 32 => gotAgR m c 1 k) [1, 2, 3, 4, 5, 6, 7, 8, 9, 10, 11, 12, 13, 14, 15] 16 [1, 2, 3, 4, 5, 6, 7, 8, 9, 10, 11, 12, 13, 14, 15, 16] rfl) $$ [F_got_agR_1 P203]
  · isplitl [F_got_agR_1] <;> iassumption
  ihave F_got_agR_1 := (bigSepL_snoc (fun k : Fin 32 => gotAgR m c 1 k) [1, 2, 3, 4, 5, 6, 7, 8, 9, 10, 11, 12, 13, 14, 15, 16] 17 [1, 2, 3, 4, 5, 6, 7, 8, 9, 10, 11, 12, 13, 14, 15, 16, 17] rfl) $$ [F_got_agR_1 P204]
  · isplitl [F_got_agR_1] <;> iassumption
  ihave F_got_agR_1 := (bigSepL_snoc (fun k : Fin 32 => gotAgR m c 1 k) [1, 2, 3, 4, 5, 6, 7, 8, 9, 10, 11, 12, 13, 14, 15, 16, 17] 18 [1, 2, 3, 4, 5, 6, 7, 8, 9, 10, 11, 12, 13, 14, 15, 16, 17, 18] rfl) $$ [F_got_agR_1 P205]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_got_agR_1 P206]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_got_agR_1 P207]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_got_agR_1 P208]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_got_agR_1 P209]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_got_agR_1 P210]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_got_agR_1 P211]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_got_agR_1 P212]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_got_agR_1 P213]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_got_agR_1 P214]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_got_agR_1 P215]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_got_agR_1 P216]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_got_agR_1 P217]
  · isplitl [F_got_agR_1] <;> iassumption
  ihave F_got_agR_1 := (bigSepL_snoc (fun k : Fin 32 => gotAgR m c 1 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_got_agR_1 P218]
  · isplitl [F_got_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_closed_agR_1 P219]
  · isplitl [F_closed_agR_1] <;> iassumption
  ihave F_closed_agR_1 := (bigSepL_snoc (fun k : Fin 32 => closedAt m K c 1 k agR) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_closed_agR_1 P220]
  · isplitl [F_closed_agR_1] <;> iassumption
  ihave F_got_agS_0 := (bigSepL_wrap (fun k : Fin 32 => outShareAt m c 0 k) 1) $$ P221
  ihave F_closed_agS_0 := (bigSepL_wrap (fun k : Fin 32 => closedAt m K c 0 k agS) 1) $$ P222
  -- k0_part135
  icases (bigSepL_pop (fun k : Fin 32 => recvRes m K agS c 0 k) 2 3 [4, 5, 6, 7, 8, 9, 10, 11, 12, 13, 14, 15, 16, 17, 18, 19, 20, 21, 22, 23, 24, 25, 26, 27, 28, 29, 30, 31]) $$ F_recvRes_agS_0 with ⟨T223, F_recvRes_agS_0⟩
  icases (bigSepL_pop (fun k : Fin 32 => recvRes m K agS c 0 k) 3 4 [5, 6, 7, 8, 9, 10, 11, 12, 13, 14, 15, 16, 17, 18, 19, 20, 21, 22, 23, 24, 25, 26, 27, 28, 29, 30, 31]) $$ F_recvRes_agS_0 with ⟨T224, F_recvRes_agS_0⟩
  icases (bigSepL_pop (fun k : Fin 32 => recvRes m K agS c 0 k) 4 5 [6, 7, 8, 9, 10, 11, 12, 13, 14, 15, 16, 17, 18, 19, 20, 21, 22, 23, 24, 25, 26, 27, 28, 29, 30, 31]) $$ F_recvRes_agS_0 with ⟨T225, F_recvRes_agS_0⟩
  icases (bigSepL_pop (fun k : Fin 32 => recvRes m K agS c 0 k) 5 6 [7, 8, 9, 10, 11, 12, 13, 14, 15, 16, 17, 18, 19, 20, 21, 22, 23, 24, 25, 26, 27, 28, 29, 30, 31]) $$ F_recvRes_agS_0 with ⟨T226, F_recvRes_agS_0⟩
  icases (bigSepL_pop (fun k : Fin 32 => recvRes m K agS c 0 k) 6 7 [8, 9, 10, 11, 12, 13, 14, 15, 16, 17, 18, 19, 20, 21, 22, 23, 24, 25, 26, 27, 28, 29, 30, 31]) $$ F_recvRes_agS_0 with ⟨T227, F_recvRes_agS_0⟩
  rw [wp_bind]
  iapply (part135_spec' m K c (insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T223]
  · iexact T223
  isplitl [T224]
  · iexact T224
  isplitl [T225]
  · iexact T225
  isplitl [T226]
  · iexact T226
  isplitl [T227]
  · iexact T227
  isplitl []
  · iexact Hlev
  isplitl [H_owes]
  · iexact H_owes
  iintro %r ⟨P228, P229, P230, P231, P232, P233, P234, P235, P236, P237, H_owes⟩
  try dsimp only
  ihave F_got_agS_0 := (bigSepL_snoc (fun k : Fin 32 => outShareAt m c 0 k) [1] 2 [1, 2] rfl) $$ [F_got_agS_0 P228]
  · isplitl [F_got_agS_0] <;> iassumption
  ihave F_closed_agS_0 := (bigSepL_snoc (fun k : Fin 32 => closedAt m K c 0 k agS) [1] 2 [1, 2] rfl) $$ [F_closed_agS_0 P229]
  · isplitl [F_closed_agS_0] <;> iassumption
  ihave F_got_agS_0 := (bigSepL_snoc (fun k : Fin 32 => outShareAt m c 0 k) [1, 2] 3 [1, 2, 3] rfl) $$ [F_got_agS_0 P230]
  · isplitl [F_got_agS_0] <;> iassumption
  ihave F_closed_agS_0 := (bigSepL_snoc (fun k : Fin 32 => closedAt m K c 0 k agS) [1, 2] 3 [1, 2, 3] rfl) $$ [F_closed_agS_0 P231]
  · isplitl [F_closed_agS_0] <;> iassumption
  ihave F_got_agS_0 := (bigSepL_snoc (fun k : Fin 32 => outShareAt m c 0 k) [1, 2, 3] 4 [1, 2, 3, 4] rfl) $$ [F_got_agS_0 P232]
  · isplitl [F_got_agS_0] <;> iassumption
  ihave F_closed_agS_0 := (bigSepL_snoc (fun k : Fin 32 => closedAt m K c 0 k agS) [1, 2, 3] 4 [1, 2, 3, 4] rfl) $$ [F_closed_agS_0 P233]
  · isplitl [F_closed_agS_0] <;> iassumption
  ihave F_got_agS_0 := (bigSepL_snoc (fun k : Fin 32 => outShareAt m c 0 k) [1, 2, 3, 4] 5 [1, 2, 3, 4, 5] rfl) $$ [F_got_agS_0 P234]
  · isplitl [F_got_agS_0] <;> iassumption
  ihave F_closed_agS_0 := (bigSepL_snoc (fun k : Fin 32 => closedAt m K c 0 k agS) [1, 2, 3, 4] 5 [1, 2, 3, 4, 5] rfl) $$ [F_closed_agS_0 P235]
  · isplitl [F_closed_agS_0] <;> iassumption
  ihave F_got_agS_0 := (bigSepL_snoc (fun k : Fin 32 => outShareAt m c 0 k) [1, 2, 3, 4, 5] 6 [1, 2, 3, 4, 5, 6] rfl) $$ [F_got_agS_0 P236]
  · isplitl [F_got_agS_0] <;> iassumption
  ihave F_closed_agS_0 := (bigSepL_snoc (fun k : Fin 32 => closedAt m K c 0 k agS) [1, 2, 3, 4, 5] 6 [1, 2, 3, 4, 5, 6] rfl) $$ [F_closed_agS_0 P237]
  · isplitl [F_closed_agS_0] <;> iassumption
  -- k0_part136
  icases (bigSepL_pop (fun k : Fin 32 => recvRes m K agS c 0 k) 7 8 [9, 10, 11, 12, 13, 14, 15, 16, 17, 18, 19, 20, 21, 22, 23, 24, 25, 26, 27, 28, 29, 30, 31]) $$ F_recvRes_agS_0 with ⟨T238, F_recvRes_agS_0⟩
  icases (bigSepL_pop (fun k : Fin 32 => recvRes m K agS c 0 k) 8 9 [10, 11, 12, 13, 14, 15, 16, 17, 18, 19, 20, 21, 22, 23, 24, 25, 26, 27, 28, 29, 30, 31]) $$ F_recvRes_agS_0 with ⟨T239, F_recvRes_agS_0⟩
  icases (bigSepL_pop (fun k : Fin 32 => recvRes m K agS c 0 k) 9 10 [11, 12, 13, 14, 15, 16, 17, 18, 19, 20, 21, 22, 23, 24, 25, 26, 27, 28, 29, 30, 31]) $$ F_recvRes_agS_0 with ⟨T240, F_recvRes_agS_0⟩
  icases (bigSepL_pop (fun k : Fin 32 => recvRes m K agS c 0 k) 10 11 [12, 13, 14, 15, 16, 17, 18, 19, 20, 21, 22, 23, 24, 25, 26, 27, 28, 29, 30, 31]) $$ F_recvRes_agS_0 with ⟨T241, F_recvRes_agS_0⟩
  icases (bigSepL_pop (fun k : Fin 32 => recvRes m K agS c 0 k) 11 12 [13, 14, 15, 16, 17, 18, 19, 20, 21, 22, 23, 24, 25, 26, 27, 28, 29, 30, 31]) $$ F_recvRes_agS_0 with ⟨T242, F_recvRes_agS_0⟩
  rw [wp_bind]
  iapply (part136_spec' m K c (insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T238]
  · iexact T238
  isplitl [T239]
  · iexact T239
  isplitl [T240]
  · iexact T240
  isplitl [T241]
  · iexact T241
  isplitl [T242]
  · iexact T242
  isplitl []
  · iexact Hlev
  isplitl [H_owes]
  · iexact H_owes
  iintro %r ⟨P243, P244, P245, P246, P247, P248, P249, P250, P251, P252, H_owes⟩
  try dsimp only
  ihave F_got_agS_0 := (bigSepL_snoc (fun k : Fin 32 => outShareAt m c 0 k) [1, 2, 3, 4, 5, 6] 7 [1, 2, 3, 4, 5, 6, 7] rfl) $$ [F_got_agS_0 P243]
  · isplitl [F_got_agS_0] <;> iassumption
  ihave F_closed_agS_0 := (bigSepL_snoc (fun k : Fin 32 => closedAt m K c 0 k agS) [1, 2, 3, 4, 5, 6] 7 [1, 2, 3, 4, 5, 6, 7] rfl) $$ [F_closed_agS_0 P244]
  · isplitl [F_closed_agS_0] <;> iassumption
  ihave F_got_agS_0 := (bigSepL_snoc (fun k : Fin 32 => outShareAt m c 0 k) [1, 2, 3, 4, 5, 6, 7] 8 [1, 2, 3, 4, 5, 6, 7, 8] rfl) $$ [F_got_agS_0 P245]
  · isplitl [F_got_agS_0] <;> iassumption
  ihave F_closed_agS_0 := (bigSepL_snoc (fun k : Fin 32 => closedAt m K c 0 k agS) [1, 2, 3, 4, 5, 6, 7] 8 [1, 2, 3, 4, 5, 6, 7, 8] rfl) $$ [F_closed_agS_0 P246]
  · isplitl [F_closed_agS_0] <;> iassumption
  ihave F_got_agS_0 := (bigSepL_snoc (fun k : Fin 32 => outShareAt m c 0 k) [1, 2, 3, 4, 5, 6, 7, 8] 9 [1, 2, 3, 4, 5, 6, 7, 8, 9] rfl) $$ [F_got_agS_0 P247]
  · isplitl [F_got_agS_0] <;> iassumption
  ihave F_closed_agS_0 := (bigSepL_snoc (fun k : Fin 32 => closedAt m K c 0 k agS) [1, 2, 3, 4, 5, 6, 7, 8] 9 [1, 2, 3, 4, 5, 6, 7, 8, 9] rfl) $$ [F_closed_agS_0 P248]
  · isplitl [F_closed_agS_0] <;> iassumption
  ihave F_got_agS_0 := (bigSepL_snoc (fun k : Fin 32 => outShareAt m c 0 k) [1, 2, 3, 4, 5, 6, 7, 8, 9] 10 [1, 2, 3, 4, 5, 6, 7, 8, 9, 10] rfl) $$ [F_got_agS_0 P249]
  · isplitl [F_got_agS_0] <;> iassumption
  ihave F_closed_agS_0 := (bigSepL_snoc (fun k : Fin 32 => closedAt m K c 0 k agS) [1, 2, 3, 4, 5, 6, 7, 8, 9] 10 [1, 2, 3, 4, 5, 6, 7, 8, 9, 10] rfl) $$ [F_closed_agS_0 P250]
  · isplitl [F_closed_agS_0] <;> iassumption
  ihave F_got_agS_0 := (bigSepL_snoc (fun k : Fin 32 => outShareAt m c 0 k) [1, 2, 3, 4, 5, 6, 7, 8, 9, 10] 11 [1, 2, 3, 4, 5, 6, 7, 8, 9, 10, 11] rfl) $$ [F_got_agS_0 P251]
  · isplitl [F_got_agS_0] <;> iassumption
  ihave F_closed_agS_0 := (bigSepL_snoc (fun k : Fin 32 => closedAt m K c 0 k agS) [1, 2, 3, 4, 5, 6, 7, 8, 9, 10] 11 [1, 2, 3, 4, 5, 6, 7, 8, 9, 10, 11] rfl) $$ [F_closed_agS_0 P252]
  · isplitl [F_closed_agS_0] <;> iassumption
  -- k0_part137
  icases (bigSepL_pop (fun k : Fin 32 => recvRes m K agS c 0 k) 12 13 [14, 15, 16, 17, 18, 19, 20, 21, 22, 23, 24, 25, 26, 27, 28, 29, 30, 31]) $$ F_recvRes_agS_0 with ⟨T253, F_recvRes_agS_0⟩
  icases (bigSepL_pop (fun k : Fin 32 => recvRes m K agS c 0 k) 13 14 [15, 16, 17, 18, 19, 20, 21, 22, 23, 24, 25, 26, 27, 28, 29, 30, 31]) $$ F_recvRes_agS_0 with ⟨T254, F_recvRes_agS_0⟩
  icases (bigSepL_pop (fun k : Fin 32 => recvRes m K agS c 0 k) 14 15 [16, 17, 18, 19, 20, 21, 22, 23, 24, 25, 26, 27, 28, 29, 30, 31]) $$ F_recvRes_agS_0 with ⟨T255, F_recvRes_agS_0⟩
  icases (bigSepL_pop (fun k : Fin 32 => recvRes m K agS c 0 k) 15 16 [17, 18, 19, 20, 21, 22, 23, 24, 25, 26, 27, 28, 29, 30, 31]) $$ F_recvRes_agS_0 with ⟨T256, F_recvRes_agS_0⟩
  icases (bigSepL_pop (fun k : Fin 32 => recvRes m K agS c 0 k) 16 17 [18, 19, 20, 21, 22, 23, 24, 25, 26, 27, 28, 29, 30, 31]) $$ F_recvRes_agS_0 with ⟨T257, F_recvRes_agS_0⟩
  rw [wp_bind]
  iapply (part137_spec' m K c (insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T253]
  · iexact T253
  isplitl [T254]
  · iexact T254
  isplitl [T255]
  · iexact T255
  isplitl [T256]
  · iexact T256
  isplitl [T257]
  · iexact T257
  isplitl []
  · iexact Hlev
  isplitl [H_owes]
  · iexact H_owes
  iintro %r ⟨P258, P259, P260, P261, P262, P263, P264, P265, P266, P267, H_owes⟩
  try dsimp only
  ihave F_got_agS_0 := (bigSepL_snoc (fun k : Fin 32 => outShareAt m c 0 k) [1, 2, 3, 4, 5, 6, 7, 8, 9, 10, 11] 12 [1, 2, 3, 4, 5, 6, 7, 8, 9, 10, 11, 12] rfl) $$ [F_got_agS_0 P258]
  · isplitl [F_got_agS_0] <;> iassumption
  ihave F_closed_agS_0 := (bigSepL_snoc (fun k : Fin 32 => closedAt m K c 0 k agS) [1, 2, 3, 4, 5, 6, 7, 8, 9, 10, 11] 12 [1, 2, 3, 4, 5, 6, 7, 8, 9, 10, 11, 12] rfl) $$ [F_closed_agS_0 P259]
  · isplitl [F_closed_agS_0] <;> iassumption
  ihave F_got_agS_0 := (bigSepL_snoc (fun k : Fin 32 => outShareAt m c 0 k) [1, 2, 3, 4, 5, 6, 7, 8, 9, 10, 11, 12] 13 [1, 2, 3, 4, 5, 6, 7, 8, 9, 10, 11, 12, 13] rfl) $$ [F_got_agS_0 P260]
  · isplitl [F_got_agS_0] <;> iassumption
  ihave F_closed_agS_0 := (bigSepL_snoc (fun k : Fin 32 => closedAt m K c 0 k agS) [1, 2, 3, 4, 5, 6, 7, 8, 9, 10, 11, 12] 13 [1, 2, 3, 4, 5, 6, 7, 8, 9, 10, 11, 12, 13] rfl) $$ [F_closed_agS_0 P261]
  · isplitl [F_closed_agS_0] <;> iassumption
  ihave F_got_agS_0 := (bigSepL_snoc (fun k : Fin 32 => outShareAt m c 0 k) [1, 2, 3, 4, 5, 6, 7, 8, 9, 10, 11, 12, 13] 14 [1, 2, 3, 4, 5, 6, 7, 8, 9, 10, 11, 12, 13, 14] rfl) $$ [F_got_agS_0 P262]
  · isplitl [F_got_agS_0] <;> iassumption
  ihave F_closed_agS_0 := (bigSepL_snoc (fun k : Fin 32 => closedAt m K c 0 k agS) [1, 2, 3, 4, 5, 6, 7, 8, 9, 10, 11, 12, 13] 14 [1, 2, 3, 4, 5, 6, 7, 8, 9, 10, 11, 12, 13, 14] rfl) $$ [F_closed_agS_0 P263]
  · isplitl [F_closed_agS_0] <;> iassumption
  ihave F_got_agS_0 := (bigSepL_snoc (fun k : Fin 32 => outShareAt m c 0 k) [1, 2, 3, 4, 5, 6, 7, 8, 9, 10, 11, 12, 13, 14] 15 [1, 2, 3, 4, 5, 6, 7, 8, 9, 10, 11, 12, 13, 14, 15] rfl) $$ [F_got_agS_0 P264]
  · isplitl [F_got_agS_0] <;> iassumption
  ihave F_closed_agS_0 := (bigSepL_snoc (fun k : Fin 32 => closedAt m K c 0 k agS) [1, 2, 3, 4, 5, 6, 7, 8, 9, 10, 11, 12, 13, 14] 15 [1, 2, 3, 4, 5, 6, 7, 8, 9, 10, 11, 12, 13, 14, 15] rfl) $$ [F_closed_agS_0 P265]
  · isplitl [F_closed_agS_0] <;> iassumption
  ihave F_got_agS_0 := (bigSepL_snoc (fun k : Fin 32 => outShareAt m c 0 k) [1, 2, 3, 4, 5, 6, 7, 8, 9, 10, 11, 12, 13, 14, 15] 16 [1, 2, 3, 4, 5, 6, 7, 8, 9, 10, 11, 12, 13, 14, 15, 16] rfl) $$ [F_got_agS_0 P266]
  · isplitl [F_got_agS_0] <;> iassumption
  ihave F_closed_agS_0 := (bigSepL_snoc (fun k : Fin 32 => closedAt m K c 0 k agS) [1, 2, 3, 4, 5, 6, 7, 8, 9, 10, 11, 12, 13, 14, 15] 16 [1, 2, 3, 4, 5, 6, 7, 8, 9, 10, 11, 12, 13, 14, 15, 16] rfl) $$ [F_closed_agS_0 P267]
  · isplitl [F_closed_agS_0] <;> iassumption
  -- k0_part138
  icases (bigSepL_pop (fun k : Fin 32 => recvRes m K agS c 0 k) 17 18 [19, 20, 21, 22, 23, 24, 25, 26, 27, 28, 29, 30, 31]) $$ F_recvRes_agS_0 with ⟨T268, F_recvRes_agS_0⟩
  icases (bigSepL_pop (fun k : Fin 32 => recvRes m K agS c 0 k) 18 19 [20, 21, 22, 23, 24, 25, 26, 27, 28, 29, 30, 31]) $$ F_recvRes_agS_0 with ⟨T269, F_recvRes_agS_0⟩
  icases (bigSepL_pop (fun k : Fin 32 => recvRes m K agS c 0 k) 19 20 [21, 22, 23, 24, 25, 26, 27, 28, 29, 30, 31]) $$ F_recvRes_agS_0 with ⟨T270, F_recvRes_agS_0⟩
  icases (bigSepL_pop (fun k : Fin 32 => recvRes m K agS c 0 k) 20 21 [22, 23, 24, 25, 26, 27, 28, 29, 30, 31]) $$ F_recvRes_agS_0 with ⟨T271, F_recvRes_agS_0⟩
  icases (bigSepL_pop (fun k : Fin 32 => recvRes m K agS c 0 k) 21 22 [23, 24, 25, 26, 27, 28, 29, 30, 31]) $$ F_recvRes_agS_0 with ⟨T272, F_recvRes_agS_0⟩
  rw [wp_bind]
  iapply (part138_spec' m K c (insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T268]
  · iexact T268
  isplitl [T269]
  · iexact T269
  isplitl [T270]
  · iexact T270
  isplitl [T271]
  · iexact T271
  isplitl [T272]
  · iexact T272
  isplitl []
  · iexact Hlev
  isplitl [H_owes]
  · iexact H_owes
  iintro %r ⟨P273, P274, P275, P276, P277, P278, P279, P280, P281, P282, H_owes⟩
  try dsimp only
  ihave F_got_agS_0 := (bigSepL_snoc (fun k : Fin 32 => outShareAt m c 0 k) [1, 2, 3, 4, 5, 6, 7, 8, 9, 10, 11, 12, 13, 14, 15, 16] 17 [1, 2, 3, 4, 5, 6, 7, 8, 9, 10, 11, 12, 13, 14, 15, 16, 17] rfl) $$ [F_got_agS_0 P273]
  · isplitl [F_got_agS_0] <;> iassumption
  ihave F_closed_agS_0 := (bigSepL_snoc (fun k : Fin 32 => closedAt m K c 0 k agS) [1, 2, 3, 4, 5, 6, 7, 8, 9, 10, 11, 12, 13, 14, 15, 16] 17 [1, 2, 3, 4, 5, 6, 7, 8, 9, 10, 11, 12, 13, 14, 15, 16, 17] rfl) $$ [F_closed_agS_0 P274]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17] 18 [1, 2, 3, 4, 5, 6, 7, 8, 9, 10, 11, 12, 13, 14, 15, 16, 17, 18] rfl) $$ [F_got_agS_0 P275]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17] 18 [1, 2, 3, 4, 5, 6, 7, 8, 9, 10, 11, 12, 13, 14, 15, 16, 17, 18] rfl) $$ [F_closed_agS_0 P276]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_got_agS_0 P277]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_closed_agS_0 P278]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_got_agS_0 P279]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_closed_agS_0 P280]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_got_agS_0 P281]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_closed_agS_0 P282]
  · isplitl [F_closed_agS_0] <;> iassumption
  -- k0_part139
  icases (bigSepL_pop (fun k : Fin 32 => recvRes m K agS c 0 k) 22 23 [24, 25, 26, 27, 28, 29, 30, 31]) $$ F_recvRes_agS_0 with ⟨T283, F_recvRes_agS_0⟩
  icases (bigSepL_pop (fun k : Fin 32 => recvRes m K agS c 0 k) 23 24 [25, 26, 27, 28, 29, 30, 31]) $$ F_recvRes_agS_0 with ⟨T284, F_recvRes_agS_0⟩
  icases (bigSepL_pop (fun k : Fin 32 => recvRes m K agS c 0 k) 24 25 [26, 27, 28, 29, 30, 31]) $$ F_recvRes_agS_0 with ⟨T285, F_recvRes_agS_0⟩
  icases (bigSepL_pop (fun k : Fin 32 => recvRes m K agS c 0 k) 25 26 [27, 28, 29, 30, 31]) $$ F_recvRes_agS_0 with ⟨T286, F_recvRes_agS_0⟩
  icases (bigSepL_pop (fun k : Fin 32 => recvRes m K agS c 0 k) 26 27 [28, 29, 30, 31]) $$ F_recvRes_agS_0 with ⟨T287, F_recvRes_agS_0⟩
  rw [wp_bind]
  iapply (part139_spec' m K c (insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T283]
  · iexact T283
  isplitl [T284]
  · iexact T284
  isplitl [T285]
  · iexact T285
  isplitl [T286]
  · iexact T286
  isplitl [T287]
  · iexact T287
  isplitl []
  · iexact Hlev
  isplitl [H_owes]
  · iexact H_owes
  iintro %r ⟨P288, P289, P290, P291, P292, P293, P294, P295, P296, P297, H_owes⟩
  try dsimp only
  ihave F_got_agS_0 := (bigSepL_snoc (fun k : Fin 32 => outShareAt m c 0 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_got_agS_0 P288]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_closed_agS_0 P289]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_got_agS_0 P290]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_closed_agS_0 P291]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_got_agS_0 P292]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_closed_agS_0 P293]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_got_agS_0 P294]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_closed_agS_0 P295]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_got_agS_0 P296]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_closed_agS_0 P297]
  · isplitl [F_closed_agS_0] <;> iassumption
  -- k0_part140
  icases (bigSepL_pop (fun k : Fin 32 => recvRes m K agS c 0 k) 27 28 [29, 30, 31]) $$ F_recvRes_agS_0 with ⟨T298, F_recvRes_agS_0⟩
  icases (bigSepL_pop (fun k : Fin 32 => recvRes m K agS c 0 k) 28 29 [30, 31]) $$ F_recvRes_agS_0 with ⟨T299, F_recvRes_agS_0⟩
  icases (bigSepL_pop (fun k : Fin 32 => recvRes m K agS c 0 k) 29 30 [31]) $$ F_recvRes_agS_0 with ⟨T300, F_recvRes_agS_0⟩
  icases (bigSepL_pop (fun k : Fin 32 => recvRes m K agS c 0 k) 30 31 []) $$ F_recvRes_agS_0 with ⟨T301, F_recvRes_agS_0⟩
  ihave T302 := (bigSepL_one (fun k : Fin 32 => recvRes m K agS c 0 k) 31) $$ F_recvRes_agS_0
  rw [wp_bind]
  iapply (part140_spec' m K c (insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T298]
  · iexact T298
  isplitl [T299]
  · iexact T299
  isplitl [T300]
  · iexact T300
  isplitl [T301]
  · iexact T301
  isplitl [T302]
  · iexact T302
  isplitl []
  · iexact Hlev
  isplitl [H_owes]
  · iexact H_owes
  iintro %r ⟨P303, P304, P305, P306, P307, P308, P309, P310, P311, P312, H_owes⟩
  try dsimp only
  ihave F_got_agS_0 := (bigSepL_snoc (fun k : Fin 32 => outShareAt m c 0 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_got_agS_0 P303]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_closed_agS_0 P304]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_got_agS_0 P305]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_closed_agS_0 P306]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_got_agS_0 P307]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_closed_agS_0 P308]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_got_agS_0 P309]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_closed_agS_0 P310]
  · isplitl [F_closed_agS_0] <;> iassumption
  ihave F_got_agS_0 := (bigSepL_snoc (fun k : Fin 32 => outShareAt m c 0 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_got_agS_0 P311]
  · isplitl [F_got_agS_0] <;> iassumption
  ihave F_closed_agS_0 := (bigSepL_snoc (fun k : Fin 32 => closedAt m K c 0 k agS) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_closed_agS_0 P312]
  · isplitl [F_closed_agS_0] <;> iassumption
  -- k0_part141
  icases (bigSepL_pop (fun k : Fin 32 => recvRes m K agS c 1 k) 1 2 [3, 4, 5, 6, 7, 8, 9, 10, 11, 12, 13, 14, 15, 16, 17, 18, 19, 20, 21, 22, 23, 24, 25, 26, 27, 28, 29, 30, 31]) $$ F_recvRes_agS_1 with ⟨T313, F_recvRes_agS_1⟩
  icases (bigSepL_pop (fun k : Fin 32 => recvRes m K agS c 1 k) 2 3 [4, 5, 6, 7, 8, 9, 10, 11, 12, 13, 14, 15, 16, 17, 18, 19, 20, 21, 22, 23, 24, 25, 26, 27, 28, 29, 30, 31]) $$ F_recvRes_agS_1 with ⟨T314, F_recvRes_agS_1⟩
  icases (bigSepL_pop (fun k : Fin 32 => recvRes m K agS c 1 k) 3 4 [5, 6, 7, 8, 9, 10, 11, 12, 13, 14, 15, 16, 17, 18, 19, 20, 21, 22, 23, 24, 25, 26, 27, 28, 29, 30, 31]) $$ F_recvRes_agS_1 with ⟨T315, F_recvRes_agS_1⟩
  icases (bigSepL_pop (fun k : Fin 32 => recvRes m K agS c 1 k) 4 5 [6, 7, 8, 9, 10, 11, 12, 13, 14, 15, 16, 17, 18, 19, 20, 21, 22, 23, 24, 25, 26, 27, 28, 29, 30, 31]) $$ F_recvRes_agS_1 with ⟨T316, F_recvRes_agS_1⟩
  icases (bigSepL_pop (fun k : Fin 32 => recvRes m K agS c 1 k) 5 6 [7, 8, 9, 10, 11, 12, 13, 14, 15, 16, 17, 18, 19, 20, 21, 22, 23, 24, 25, 26, 27, 28, 29, 30, 31]) $$ F_recvRes_agS_1 with ⟨T317, F_recvRes_agS_1⟩
  rw [wp_bind]
  iapply (part141_spec' m K c (insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) ((insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T313]
  · iexact T313
  isplitl [T314]
  · iexact T314
  isplitl [T315]
  · iexact T315
  isplitl [T316]
  · iexact T316
  isplitl [T317]
  · iexact T317
  isplitl []
  · iexact Hlev
  isplitl [H_owes]
  · iexact H_owes
  iintro %r ⟨P318, P319, P320, P321, P322, P323, P324, P325, P326, P327, H_owes⟩
  try dsimp only
  ihave F_got_agS_1 := (bigSepL_wrap (fun k : Fin 32 => outShareAt m c 1 k) 1) $$ P318
  ihave F_closed_agS_1 := (bigSepL_wrap (fun k : Fin 32 => closedAt m K c 1 k agS) 1) $$ P319
  ihave F_got_agS_1 := (bigSepL_snoc (fun k : Fin 32 => outShareAt m c 1 k) [1] 2 [1, 2] rfl) $$ [F_got_agS_1 P320]
  · isplitl [F_got_agS_1] <;> iassumption
  ihave F_closed_agS_1 := (bigSepL_snoc (fun k : Fin 32 => closedAt m K c 1 k agS) [1] 2 [1, 2] rfl) $$ [F_closed_agS_1 P321]
  · isplitl [F_closed_agS_1] <;> iassumption
  ihave F_got_agS_1 := (bigSepL_snoc (fun k : Fin 32 => outShareAt m c 1 k) [1, 2] 3 [1, 2, 3] rfl) $$ [F_got_agS_1 P322]
  · isplitl [F_got_agS_1] <;> iassumption
  ihave F_closed_agS_1 := (bigSepL_snoc (fun k : Fin 32 => closedAt m K c 1 k agS) [1, 2] 3 [1, 2, 3] rfl) $$ [F_closed_agS_1 P323]
  · isplitl [F_closed_agS_1] <;> iassumption
  ihave F_got_agS_1 := (bigSepL_snoc (fun k : Fin 32 => outShareAt m c 1 k) [1, 2, 3] 4 [1, 2, 3, 4] rfl) $$ [F_got_agS_1 P324]
  · isplitl [F_got_agS_1] <;> iassumption
  ihave F_closed_agS_1 := (bigSepL_snoc (fun k : Fin 32 => closedAt m K c 1 k agS) [1, 2, 3] 4 [1, 2, 3, 4] rfl) $$ [F_closed_agS_1 P325]
  · isplitl [F_closed_agS_1] <;> iassumption
  ihave F_got_agS_1 := (bigSepL_snoc (fun k : Fin 32 => outShareAt m c 1 k) [1, 2, 3, 4] 5 [1, 2, 3, 4, 5] rfl) $$ [F_got_agS_1 P326]
  · isplitl [F_got_agS_1] <;> iassumption
  ihave F_closed_agS_1 := (bigSepL_snoc (fun k : Fin 32 => closedAt m K c 1 k agS) [1, 2, 3, 4] 5 [1, 2, 3, 4, 5] rfl) $$ [F_closed_agS_1 P327]
  · isplitl [F_closed_agS_1] <;> iassumption
  -- k0_part142
  icases (bigSepL_pop (fun k : Fin 32 => recvRes m K agS c 1 k) 6 7 [8, 9, 10, 11, 12, 13, 14, 15, 16, 17, 18, 19, 20, 21, 22, 23, 24, 25, 26, 27, 28, 29, 30, 31]) $$ F_recvRes_agS_1 with ⟨T328, F_recvRes_agS_1⟩
  icases (bigSepL_pop (fun k : Fin 32 => recvRes m K agS c 1 k) 7 8 [9, 10, 11, 12, 13, 14, 15, 16, 17, 18, 19, 20, 21, 22, 23, 24, 25, 26, 27, 28, 29, 30, 31]) $$ F_recvRes_agS_1 with ⟨T329, F_recvRes_agS_1⟩
  icases (bigSepL_pop (fun k : Fin 32 => recvRes m K agS c 1 k) 8 9 [10, 11, 12, 13, 14, 15, 16, 17, 18, 19, 20, 21, 22, 23, 24, 25, 26, 27, 28, 29, 30, 31]) $$ F_recvRes_agS_1 with ⟨T330, F_recvRes_agS_1⟩
  icases (bigSepL_pop (fun k : Fin 32 => recvRes m K agS c 1 k) 9 10 [11, 12, 13, 14, 15, 16, 17, 18, 19, 20, 21, 22, 23, 24, 25, 26, 27, 28, 29, 30, 31]) $$ F_recvRes_agS_1 with ⟨T331, F_recvRes_agS_1⟩
  icases (bigSepL_pop (fun k : Fin 32 => recvRes m K agS c 1 k) 10 11 [12, 13, 14, 15, 16, 17, 18, 19, 20, 21, 22, 23, 24, 25, 26, 27, 28, 29, 30, 31]) $$ F_recvRes_agS_1 with ⟨T332, F_recvRes_agS_1⟩
  rw [wp_bind]
  iapply (part142_spec' m K c (insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) ((insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) ((insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T328]
  · iexact T328
  isplitl [T329]
  · iexact T329
  isplitl [T330]
  · iexact T330
  isplitl [T331]
  · iexact T331
  isplitl [T332]
  · iexact T332
  isplitl []
  · iexact Hlev
  isplitl [H_owes]
  · iexact H_owes
  iintro %r ⟨P333, P334, P335, P336, P337, P338, P339, P340, P341, P342, H_owes⟩
  try dsimp only
  ihave F_got_agS_1 := (bigSepL_snoc (fun k : Fin 32 => outShareAt m c 1 k) [1, 2, 3, 4, 5] 6 [1, 2, 3, 4, 5, 6] rfl) $$ [F_got_agS_1 P333]
  · isplitl [F_got_agS_1] <;> iassumption
  ihave F_closed_agS_1 := (bigSepL_snoc (fun k : Fin 32 => closedAt m K c 1 k agS) [1, 2, 3, 4, 5] 6 [1, 2, 3, 4, 5, 6] rfl) $$ [F_closed_agS_1 P334]
  · isplitl [F_closed_agS_1] <;> iassumption
  ihave F_got_agS_1 := (bigSepL_snoc (fun k : Fin 32 => outShareAt m c 1 k) [1, 2, 3, 4, 5, 6] 7 [1, 2, 3, 4, 5, 6, 7] rfl) $$ [F_got_agS_1 P335]
  · isplitl [F_got_agS_1] <;> iassumption
  ihave F_closed_agS_1 := (bigSepL_snoc (fun k : Fin 32 => closedAt m K c 1 k agS) [1, 2, 3, 4, 5, 6] 7 [1, 2, 3, 4, 5, 6, 7] rfl) $$ [F_closed_agS_1 P336]
  · isplitl [F_closed_agS_1] <;> iassumption
  ihave F_got_agS_1 := (bigSepL_snoc (fun k : Fin 32 => outShareAt m c 1 k) [1, 2, 3, 4, 5, 6, 7] 8 [1, 2, 3, 4, 5, 6, 7, 8] rfl) $$ [F_got_agS_1 P337]
  · isplitl [F_got_agS_1] <;> iassumption
  ihave F_closed_agS_1 := (bigSepL_snoc (fun k : Fin 32 => closedAt m K c 1 k agS) [1, 2, 3, 4, 5, 6, 7] 8 [1, 2, 3, 4, 5, 6, 7, 8] rfl) $$ [F_closed_agS_1 P338]
  · isplitl [F_closed_agS_1] <;> iassumption
  ihave F_got_agS_1 := (bigSepL_snoc (fun k : Fin 32 => outShareAt m c 1 k) [1, 2, 3, 4, 5, 6, 7, 8] 9 [1, 2, 3, 4, 5, 6, 7, 8, 9] rfl) $$ [F_got_agS_1 P339]
  · isplitl [F_got_agS_1] <;> iassumption
  ihave F_closed_agS_1 := (bigSepL_snoc (fun k : Fin 32 => closedAt m K c 1 k agS) [1, 2, 3, 4, 5, 6, 7, 8] 9 [1, 2, 3, 4, 5, 6, 7, 8, 9] rfl) $$ [F_closed_agS_1 P340]
  · isplitl [F_closed_agS_1] <;> iassumption
  ihave F_got_agS_1 := (bigSepL_snoc (fun k : Fin 32 => outShareAt m c 1 k) [1, 2, 3, 4, 5, 6, 7, 8, 9] 10 [1, 2, 3, 4, 5, 6, 7, 8, 9, 10] rfl) $$ [F_got_agS_1 P341]
  · isplitl [F_got_agS_1] <;> iassumption
  ihave F_closed_agS_1 := (bigSepL_snoc (fun k : Fin 32 => closedAt m K c 1 k agS) [1, 2, 3, 4, 5, 6, 7, 8, 9] 10 [1, 2, 3, 4, 5, 6, 7, 8, 9, 10] rfl) $$ [F_closed_agS_1 P342]
  · isplitl [F_closed_agS_1] <;> iassumption
  -- k0_part143
  icases (bigSepL_pop (fun k : Fin 32 => recvRes m K agS c 1 k) 11 12 [13, 14, 15, 16, 17, 18, 19, 20, 21, 22, 23, 24, 25, 26, 27, 28, 29, 30, 31]) $$ F_recvRes_agS_1 with ⟨T343, F_recvRes_agS_1⟩
  icases (bigSepL_pop (fun k : Fin 32 => recvRes m K agS c 1 k) 12 13 [14, 15, 16, 17, 18, 19, 20, 21, 22, 23, 24, 25, 26, 27, 28, 29, 30, 31]) $$ F_recvRes_agS_1 with ⟨T344, F_recvRes_agS_1⟩
  icases (bigSepL_pop (fun k : Fin 32 => recvRes m K agS c 1 k) 13 14 [15, 16, 17, 18, 19, 20, 21, 22, 23, 24, 25, 26, 27, 28, 29, 30, 31]) $$ F_recvRes_agS_1 with ⟨T345, F_recvRes_agS_1⟩
  icases (bigSepL_pop (fun k : Fin 32 => recvRes m K agS c 1 k) 14 15 [16, 17, 18, 19, 20, 21, 22, 23, 24, 25, 26, 27, 28, 29, 30, 31]) $$ F_recvRes_agS_1 with ⟨T346, F_recvRes_agS_1⟩
  icases (bigSepL_pop (fun k : Fin 32 => recvRes m K agS c 1 k) 15 16 [17, 18, 19, 20, 21, 22, 23, 24, 25, 26, 27, 28, 29, 30, 31]) $$ F_recvRes_agS_1 with ⟨T347, F_recvRes_agS_1⟩
  rw [wp_bind]
  iapply (part143_spec' m K c (insert (SemLoc.dma (semAt (arr agS) 1 10), ()) (insert (SemLoc.dma (semAt (arr agS) 1 9), ()) (insert (SemLoc.dma (semAt (arr agS) 1 8), ()) (insert (SemLoc.dma (semAt (arr agS) 1 7), ()) (insert (SemLoc.dma (semAt (arr agS) 1 6), ()) ((insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) ((insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) ((insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T343]
  · iexact T343
  isplitl [T344]
  · iexact T344
  isplitl [T345]
  · iexact T345
  isplitl [T346]
  · iexact T346
  isplitl [T347]
  · iexact T347
  isplitl []
  · iexact Hlev
  isplitl [H_owes]
  · iexact H_owes
  iintro %r ⟨P348, P349, P350, P351, P352, P353, P354, P355, P356, P357, H_owes⟩
  try dsimp only
  ihave F_got_agS_1 := (bigSepL_snoc (fun k : Fin 32 => outShareAt m c 1 k) [1, 2, 3, 4, 5, 6, 7, 8, 9, 10] 11 [1, 2, 3, 4, 5, 6, 7, 8, 9, 10, 11] rfl) $$ [F_got_agS_1 P348]
  · isplitl [F_got_agS_1] <;> iassumption
  ihave F_closed_agS_1 := (bigSepL_snoc (fun k : Fin 32 => closedAt m K c 1 k agS) [1, 2, 3, 4, 5, 6, 7, 8, 9, 10] 11 [1, 2, 3, 4, 5, 6, 7, 8, 9, 10, 11] rfl) $$ [F_closed_agS_1 P349]
  · isplitl [F_closed_agS_1] <;> iassumption
  ihave F_got_agS_1 := (bigSepL_snoc (fun k : Fin 32 => outShareAt m c 1 k) [1, 2, 3, 4, 5, 6, 7, 8, 9, 10, 11] 12 [1, 2, 3, 4, 5, 6, 7, 8, 9, 10, 11, 12] rfl) $$ [F_got_agS_1 P350]
  · isplitl [F_got_agS_1] <;> iassumption
  ihave F_closed_agS_1 := (bigSepL_snoc (fun k : Fin 32 => closedAt m K c 1 k agS) [1, 2, 3, 4, 5, 6, 7, 8, 9, 10, 11] 12 [1, 2, 3, 4, 5, 6, 7, 8, 9, 10, 11, 12] rfl) $$ [F_closed_agS_1 P351]
  · isplitl [F_closed_agS_1] <;> iassumption
  ihave F_got_agS_1 := (bigSepL_snoc (fun k : Fin 32 => outShareAt m c 1 k) [1, 2, 3, 4, 5, 6, 7, 8, 9, 10, 11, 12] 13 [1, 2, 3, 4, 5, 6, 7, 8, 9, 10, 11, 12, 13] rfl) $$ [F_got_agS_1 P352]
  · isplitl [F_got_agS_1] <;> iassumption
  ihave F_closed_agS_1 := (bigSepL_snoc (fun k : Fin 32 => closedAt m K c 1 k agS) [1, 2, 3, 4, 5, 6, 7, 8, 9, 10, 11, 12] 13 [1, 2, 3, 4, 5, 6, 7, 8, 9, 10, 11, 12, 13] rfl) $$ [F_closed_agS_1 P353]
  · isplitl [F_closed_agS_1] <;> iassumption
  ihave F_got_agS_1 := (bigSepL_snoc (fun k : Fin 32 => outShareAt m c 1 k) [1, 2, 3, 4, 5, 6, 7, 8, 9, 10, 11, 12, 13] 14 [1, 2, 3, 4, 5, 6, 7, 8, 9, 10, 11, 12, 13, 14] rfl) $$ [F_got_agS_1 P354]
  · isplitl [F_got_agS_1] <;> iassumption
  ihave F_closed_agS_1 := (bigSepL_snoc (fun k : Fin 32 => closedAt m K c 1 k agS) [1, 2, 3, 4, 5, 6, 7, 8, 9, 10, 11, 12, 13] 14 [1, 2, 3, 4, 5, 6, 7, 8, 9, 10, 11, 12, 13, 14] rfl) $$ [F_closed_agS_1 P355]
  · isplitl [F_closed_agS_1] <;> iassumption
  ihave F_got_agS_1 := (bigSepL_snoc (fun k : Fin 32 => outShareAt m c 1 k) [1, 2, 3, 4, 5, 6, 7, 8, 9, 10, 11, 12, 13, 14] 15 [1, 2, 3, 4, 5, 6, 7, 8, 9, 10, 11, 12, 13, 14, 15] rfl) $$ [F_got_agS_1 P356]
  · isplitl [F_got_agS_1] <;> iassumption
  ihave F_closed_agS_1 := (bigSepL_snoc (fun k : Fin 32 => closedAt m K c 1 k agS) [1, 2, 3, 4, 5, 6, 7, 8, 9, 10, 11, 12, 13, 14] 15 [1, 2, 3, 4, 5, 6, 7, 8, 9, 10, 11, 12, 13, 14, 15] rfl) $$ [F_closed_agS_1 P357]
  · isplitl [F_closed_agS_1] <;> iassumption
  -- k0_part144
  icases (bigSepL_pop (fun k : Fin 32 => recvRes m K agS c 1 k) 16 17 [18, 19, 20, 21, 22, 23, 24, 25, 26, 27, 28, 29, 30, 31]) $$ F_recvRes_agS_1 with ⟨T358, F_recvRes_agS_1⟩
  icases (bigSepL_pop (fun k : Fin 32 => recvRes m K agS c 1 k) 17 18 [19, 20, 21, 22, 23, 24, 25, 26, 27, 28, 29, 30, 31]) $$ F_recvRes_agS_1 with ⟨T359, F_recvRes_agS_1⟩
  icases (bigSepL_pop (fun k : Fin 32 => recvRes m K agS c 1 k) 18 19 [20, 21, 22, 23, 24, 25, 26, 27, 28, 29, 30, 31]) $$ F_recvRes_agS_1 with ⟨T360, F_recvRes_agS_1⟩
  icases (bigSepL_pop (fun k : Fin 32 => recvRes m K agS c 1 k) 19 20 [21, 22, 23, 24, 25, 26, 27, 28, 29, 30, 31]) $$ F_recvRes_agS_1 with ⟨T361, F_recvRes_agS_1⟩
  icases (bigSepL_pop (fun k : Fin 32 => recvRes m K agS c 1 k) 20 21 [22, 23, 24, 25, 26, 27, 28, 29, 30, 31]) $$ F_recvRes_agS_1 with ⟨T362, F_recvRes_agS_1⟩
  rw [wp_bind]
  iapply (part144_spec' m K c (insert (SemLoc.dma (semAt (arr agS) 1 15), ()) (insert (SemLoc.dma (semAt (arr agS) 1 14), ()) (insert (SemLoc.dma (semAt (arr agS) 1 13), ()) (insert (SemLoc.dma (semAt (arr agS) 1 12), ()) (insert (SemLoc.dma (semAt (arr agS) 1 11), ()) ((insert (SemLoc.dma (semAt (arr agS) 1 10), ()) (insert (SemLoc.dma (semAt (arr agS) 1 9), ()) (insert (SemLoc.dma (semAt (arr agS) 1 8), ()) (insert (SemLoc.dma (semAt (arr agS) 1 7), ()) (insert (SemLoc.dma (semAt (arr agS) 1 6), ()) ((insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) ((insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) ((insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T358]
  · iexact T358
  isplitl [T359]
  · iexact T359
  isplitl [T360]
  · iexact T360
  isplitl [T361]
  · iexact T361
  isplitl [T362]
  · iexact T362
  isplitl []
  · iexact Hlev
  isplitl [H_owes]
  · iexact H_owes
  iintro %r ⟨P363, P364, P365, P366, P367, P368, P369, P370, P371, P372, H_owes⟩
  try dsimp only
  ihave F_got_agS_1 := (bigSepL_snoc (fun k : Fin 32 => outShareAt m c 1 k) [1, 2, 3, 4, 5, 6, 7, 8, 9, 10, 11, 12, 13, 14, 15] 16 [1, 2, 3, 4, 5, 6, 7, 8, 9, 10, 11, 12, 13, 14, 15, 16] rfl) $$ [F_got_agS_1 P363]
  · isplitl [F_got_agS_1] <;> iassumption
  ihave F_closed_agS_1 := (bigSepL_snoc (fun k : Fin 32 => closedAt m K c 1 k agS) [1, 2, 3, 4, 5, 6, 7, 8, 9, 10, 11, 12, 13, 14, 15] 16 [1, 2, 3, 4, 5, 6, 7, 8, 9, 10, 11, 12, 13, 14, 15, 16] rfl) $$ [F_closed_agS_1 P364]
  · isplitl [F_closed_agS_1] <;> iassumption
  ihave F_got_agS_1 := (bigSepL_snoc (fun k : Fin 32 => outShareAt m c 1 k) [1, 2, 3, 4, 5, 6, 7, 8, 9, 10, 11, 12, 13, 14, 15, 16] 17 [1, 2, 3, 4, 5, 6, 7, 8, 9, 10, 11, 12, 13, 14, 15, 16, 17] rfl) $$ [F_got_agS_1 P365]
  · isplitl [F_got_agS_1] <;> iassumption
  ihave F_closed_agS_1 := (bigSepL_snoc (fun k : Fin 32 => closedAt m K c 1 k agS) [1, 2, 3, 4, 5, 6, 7, 8, 9, 10, 11, 12, 13, 14, 15, 16] 17 [1, 2, 3, 4, 5, 6, 7, 8, 9, 10, 11, 12, 13, 14, 15, 16, 17] rfl) $$ [F_closed_agS_1 P366]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17] 18 [1, 2, 3, 4, 5, 6, 7, 8, 9, 10, 11, 12, 13, 14, 15, 16, 17, 18] rfl) $$ [F_got_agS_1 P367]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17] 18 [1, 2, 3, 4, 5, 6, 7, 8, 9, 10, 11, 12, 13, 14, 15, 16, 17, 18] rfl) $$ [F_closed_agS_1 P368]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_got_agS_1 P369]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18] 19 [1, 2, 3, 4, 5, 6, 7, 8, 9, 10, 11, 12, 13, 14, 15, 16, 17, 18, 19] rfl) $$ [F_closed_agS_1 P370]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_got_agS_1 P371]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19] 20 [1, 2, 3, 4, 5, 6, 7, 8, 9, 10, 11, 12, 13, 14, 15, 16, 17, 18, 19, 20] rfl) $$ [F_closed_agS_1 P372]
  · isplitl [F_closed_agS_1] <;> iassumption
  -- k0_part145
  icases (bigSepL_pop (fun k : Fin 32 => recvRes m K agS c 1 k) 21 22 [23, 24, 25, 26, 27, 28, 29, 30, 31]) $$ F_recvRes_agS_1 with ⟨T373, F_recvRes_agS_1⟩
  icases (bigSepL_pop (fun k : Fin 32 => recvRes m K agS c 1 k) 22 23 [24, 25, 26, 27, 28, 29, 30, 31]) $$ F_recvRes_agS_1 with ⟨T374, F_recvRes_agS_1⟩
  icases (bigSepL_pop (fun k : Fin 32 => recvRes m K agS c 1 k) 23 24 [25, 26, 27, 28, 29, 30, 31]) $$ F_recvRes_agS_1 with ⟨T375, F_recvRes_agS_1⟩
  icases (bigSepL_pop (fun k : Fin 32 => recvRes m K agS c 1 k) 24 25 [26, 27, 28, 29, 30, 31]) $$ F_recvRes_agS_1 with ⟨T376, F_recvRes_agS_1⟩
  icases (bigSepL_pop (fun k : Fin 32 => recvRes m K agS c 1 k) 25 26 [27, 28, 29, 30, 31]) $$ F_recvRes_agS_1 with ⟨T377, F_recvRes_agS_1⟩
  rw [wp_bind]
  iapply (part145_spec' m K c (insert (SemLoc.dma (semAt (arr agS) 1 20), ()) (insert (SemLoc.dma (semAt (arr agS) 1 19), ()) (insert (SemLoc.dma (semAt (arr agS) 1 18), ()) (insert (SemLoc.dma (semAt (arr agS) 1 17), ()) (insert (SemLoc.dma (semAt (arr agS) 1 16), ()) ((insert (SemLoc.dma (semAt (arr agS) 1 15), ()) (insert (SemLoc.dma (semAt (arr agS) 1 14), ()) (insert (SemLoc.dma (semAt (arr agS) 1 13), ()) (insert (SemLoc.dma (semAt (arr agS) 1 12), ()) (insert (SemLoc.dma (semAt (arr agS) 1 11), ()) ((insert (SemLoc.dma (semAt (arr agS) 1 10), ()) (insert (SemLoc.dma (semAt (arr agS) 1 9), ()) (insert (SemLoc.dma (semAt (arr agS) 1 8), ()) (insert (SemLoc.dma (semAt (arr agS) 1 7), ()) (insert (SemLoc.dma (semAt (arr agS) 1 6), ()) ((insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) ((insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) ((insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T373]
  · iexact T373
  isplitl [T374]
  · iexact T374
  isplitl [T375]
  · iexact T375
  isplitl [T376]
  · iexact T376
  isplitl [T377]
  · iexact T377
  isplitl []
  · iexact Hlev
  isplitl [H_owes]
  · iexact H_owes
  iintro %r ⟨P378, P379, P380, P381, P382, P383, P384, P385, P386, P387, H_owes⟩
  try dsimp only
  ihave F_got_agS_1 := (bigSepL_snoc (fun k : Fin 32 => outShareAt m c 1 k) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_got_agS_1 P378]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20] 21 [1, 2, 3, 4, 5, 6, 7, 8, 9, 10, 11, 12, 13, 14, 15, 16, 17, 18, 19, 20, 21] rfl) $$ [F_closed_agS_1 P379]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_got_agS_1 P380]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21] 22 [1, 2, 3, 4, 5, 6, 7, 8, 9, 10, 11, 12, 13, 14, 15, 16, 17, 18, 19, 20, 21, 22] rfl) $$ [F_closed_agS_1 P381]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_got_agS_1 P382]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22] 23 [1, 2, 3, 4, 5, 6, 7, 8, 9, 10, 11, 12, 13, 14, 15, 16, 17, 18, 19, 20, 21, 22, 23] rfl) $$ [F_closed_agS_1 P383]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_got_agS_1 P384]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22, 23] 24 [1, 2, 3, 4, 5, 6, 7, 8, 9, 10, 11, 12, 13, 14, 15, 16, 17, 18, 19, 20, 21, 22, 23, 24] rfl) $$ [F_closed_agS_1 P385]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_got_agS_1 P386]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22, 23, 24] 25 [1, 2, 3, 4, 5, 6, 7, 8, 9, 10, 11, 12, 13, 14, 15, 16, 17, 18, 19, 20, 21, 22, 23, 24, 25] rfl) $$ [F_closed_agS_1 P387]
  · isplitl [F_closed_agS_1] <;> iassumption
  -- k0_part146
  icases (bigSepL_pop (fun k : Fin 32 => recvRes m K agS c 1 k) 26 27 [28, 29, 30, 31]) $$ F_recvRes_agS_1 with ⟨T388, F_recvRes_agS_1⟩
  icases (bigSepL_pop (fun k : Fin 32 => recvRes m K agS c 1 k) 27 28 [29, 30, 31]) $$ F_recvRes_agS_1 with ⟨T389, F_recvRes_agS_1⟩
  icases (bigSepL_pop (fun k : Fin 32 => recvRes m K agS c 1 k) 28 29 [30, 31]) $$ F_recvRes_agS_1 with ⟨T390, F_recvRes_agS_1⟩
  icases (bigSepL_pop (fun k : Fin 32 => recvRes m K agS c 1 k) 29 30 [31]) $$ F_recvRes_agS_1 with ⟨T391, F_recvRes_agS_1⟩
  icases (bigSepL_pop (fun k : Fin 32 => recvRes m K agS c 1 k) 30 31 []) $$ F_recvRes_agS_1 with ⟨T392, F_recvRes_agS_1⟩
  rw [wp_bind]
  iapply (part146_spec' m K c (insert (SemLoc.dma (semAt (arr agS) 1 25), ()) (insert (SemLoc.dma (semAt (arr agS) 1 24), ()) (insert (SemLoc.dma (semAt (arr agS) 1 23), ()) (insert (SemLoc.dma (semAt (arr agS) 1 22), ()) (insert (SemLoc.dma (semAt (arr agS) 1 21), ()) ((insert (SemLoc.dma (semAt (arr agS) 1 20), ()) (insert (SemLoc.dma (semAt (arr agS) 1 19), ()) (insert (SemLoc.dma (semAt (arr agS) 1 18), ()) (insert (SemLoc.dma (semAt (arr agS) 1 17), ()) (insert (SemLoc.dma (semAt (arr agS) 1 16), ()) ((insert (SemLoc.dma (semAt (arr agS) 1 15), ()) (insert (SemLoc.dma (semAt (arr agS) 1 14), ()) (insert (SemLoc.dma (semAt (arr agS) 1 13), ()) (insert (SemLoc.dma (semAt (arr agS) 1 12), ()) (insert (SemLoc.dma (semAt (arr agS) 1 11), ()) ((insert (SemLoc.dma (semAt (arr agS) 1 10), ()) (insert (SemLoc.dma (semAt (arr agS) 1 9), ()) (insert (SemLoc.dma (semAt (arr agS) 1 8), ()) (insert (SemLoc.dma (semAt (arr agS) 1 7), ()) (insert (SemLoc.dma (semAt (arr agS) 1 6), ()) ((insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) ((insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) ((insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [T388]
  · iexact T388
  isplitl [T389]
  · iexact T389
  isplitl [T390]
  · iexact T390
  isplitl [T391]
  · iexact T391
  isplitl [T392]
  · iexact T392
  isplitl []
  · iexact Hlev
  isplitl [H_owes]
  · iexact H_owes
  iintro %r ⟨P393, P394, P395, P396, P397, P398, P399, P400, P401, P402, H_owes⟩
  try dsimp only
  ihave F_got_agS_1 := (bigSepL_snoc (fun k : Fin 32 => outShareAt m c 1 k) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_got_agS_1 P393]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22, 23, 24, 25] 26 [1, 2, 3, 4, 5, 6, 7, 8, 9, 10, 11, 12, 13, 14, 15, 16, 17, 18, 19, 20, 21, 22, 23, 24, 25, 26] rfl) $$ [F_closed_agS_1 P394]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_got_agS_1 P395]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22, 23, 24, 25, 26] 27 [1, 2, 3, 4, 5, 6, 7, 8, 9, 10, 11, 12, 13, 14, 15, 16, 17, 18, 19, 20, 21, 22, 23, 24, 25, 26, 27] rfl) $$ [F_closed_agS_1 P396]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_got_agS_1 P397]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22, 23, 24, 25, 26, 27] 28 [1, 2, 3, 4, 5, 6, 7, 8, 9, 10, 11, 12, 13, 14, 15, 16, 17, 18, 19, 20, 21, 22, 23, 24, 25, 26, 27, 28] rfl) $$ [F_closed_agS_1 P398]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_got_agS_1 P399]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22, 23, 24, 25, 26, 27, 28] 29 [1, 2, 3, 4, 5, 6, 7, 8, 9, 10, 11, 12, 13, 14, 15, 16, 17, 18, 19, 20, 21, 22, 23, 24, 25, 26, 27, 28, 29] rfl) $$ [F_closed_agS_1 P400]
  · isplitl [F_closed_agS_1] <;> iassumption
  ihave F_got_agS_1 := (bigSepL_snoc (fun k : Fin 32 => outShareAt m c 1 k) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_got_agS_1 P401]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22, 23, 24, 25, 26, 27, 28, 29] 30 [1, 2, 3, 4, 5, 6, 7, 8, 9, 10, 11, 12, 13, 14, 15, 16, 17, 18, 19, 20, 21, 22, 23, 24, 25, 26, 27, 28, 29, 30] rfl) $$ [F_closed_agS_1 P402]
  · isplitl [F_closed_agS_1] <;> iassumption
  -- the last wait
  ihave Tt := (bigSepL_one (fun k : Fin 32 => recvRes m K agS c 1 k) 31) $$ F_recvRes_agS_1
  rw [wp_bind]
  iapply (tail_spec m K c (insert (SemLoc.dma (semAt (arr agS) 1 30), ()) (insert (SemLoc.dma (semAt (arr agS) 1 29), ()) (insert (SemLoc.dma (semAt (arr agS) 1 28), ()) (insert (SemLoc.dma (semAt (arr agS) 1 27), ()) (insert (SemLoc.dma (semAt (arr agS) 1 26), ()) ((insert (SemLoc.dma (semAt (arr agS) 1 25), ()) (insert (SemLoc.dma (semAt (arr agS) 1 24), ()) (insert (SemLoc.dma (semAt (arr agS) 1 23), ()) (insert (SemLoc.dma (semAt (arr agS) 1 22), ()) (insert (SemLoc.dma (semAt (arr agS) 1 21), ()) ((insert (SemLoc.dma (semAt (arr agS) 1 20), ()) (insert (SemLoc.dma (semAt (arr agS) 1 19), ()) (insert (SemLoc.dma (semAt (arr agS) 1 18), ()) (insert (SemLoc.dma (semAt (arr agS) 1 17), ()) (insert (SemLoc.dma (semAt (arr agS) 1 16), ()) ((insert (SemLoc.dma (semAt (arr agS) 1 15), ()) (insert (SemLoc.dma (semAt (arr agS) 1 14), ()) (insert (SemLoc.dma (semAt (arr agS) 1 13), ()) (insert (SemLoc.dma (semAt (arr agS) 1 12), ()) (insert (SemLoc.dma (semAt (arr agS) 1 11), ()) ((insert (SemLoc.dma (semAt (arr agS) 1 10), ()) (insert (SemLoc.dma (semAt (arr agS) 1 9), ()) (insert (SemLoc.dma (semAt (arr agS) 1 8), ()) (insert (SemLoc.dma (semAt (arr agS) 1 7), ()) (insert (SemLoc.dma (semAt (arr agS) 1 6), ()) ((insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) ((insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) ((insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  isplitl [Tt]
  · iexact Tt
  isplitl []
  · iexact Hlev
  isplitl [H_owes]
  · iexact H_owes
  iintro %r ⟨Pt1, Pt2, H_owes⟩
  try dsimp only
  ihave F_got_agS_1 := (bigSepL_snoc (fun k : Fin 32 => outShareAt m c 1 k) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_got_agS_1 Pt1]
  · isplitl [F_got_agS_1] <;> iassumption
  ihave F_closed_agS_1 := (bigSepL_snoc (fun k : Fin 32 => closedAt m K c 1 k agS) [1, 2, 3, 4, 5, 6, 7, 8, 9, 10, 11, 12, 13, 14, 15, 16, 17, 18, 19, 20, 21, 22, 23, 24, 25, 26, 27, 28, 29, 30] 31 [1, 2, 3, 4, 5, 6, 7, 8, 9, 10, 11, 12, 13, 14, 15, 16, 17, 18, 19, 20, 21, 22, 23, 24, 25, 26, 27, 28, 29, 30, 31] rfl) $$ [F_closed_agS_1 Pt2]
  · isplitl [F_closed_agS_1] <;> iassumption
  -- the epilogue: own pieces out of their lists, the cells closed, the buffers rejoined
  rw [wp_pure]
  icases (bigSepL_pop (fun k : Fin 32 => gotRsR m c 0 k) 0 1 [2, 3, 4, 5, 6, 7, 8, 9, 10, 11, 12, 13, 14, 15, 16, 17, 18, 19, 20, 21, 22, 23, 24, 25, 26, 27, 28, 29, 30, 31]) $$ F_got_rsR_0 with ⟨S00, F_got_rsR_0⟩
  icases (bigSepL_pop (fun k : Fin 32 => gotRsR m c 1 k) 0 1 [2, 3, 4, 5, 6, 7, 8, 9, 10, 11, 12, 13, 14, 15, 16, 17, 18, 19, 20, 21, 22, 23, 24, 25, 26, 27, 28, 29, 30, 31]) $$ F_got_rsR_1 with ⟨S10, F_got_rsR_1⟩
  ihave S00' := (got_slotEx m c 0 0) $$ S00
  ihave S10' := (got_slotEx m c 1 0) $$ S10
  ihave A00 := (bigSepL_one (fun k : Fin 32 => accSrcAt m c 0 k) 0) $$ F_accSrc0_0
  ihave A10 := (bigSepL_one (fun k : Fin 32 => accSrcAt m c 1 k) 0) $$ F_accSrc0_1
  ihave O00 := (bigSepL_one (fun k : Fin 32 => outShareAt m c 0 k) 0) $$ F_outShare0_0
  ihave O10 := (bigSepL_one (fun k : Fin 32 => outShareAt m c 1 k) 0) $$ F_outShare0_1
  rw [← ks_eq, owed_end c]
  imod (close_fam m K c rsS 0) $$ F_closed_rsS_0 with Z00
  imod (close_fam m K c rsS 1) $$ F_closed_rsS_1 with Z01
  imod (close_fam m K c rsR 0) $$ F_closed_rsR_0 with Z10
  imod (close_fam m K c rsR 1) $$ F_closed_rsR_1 with Z11
  imod (close_fam m K c agS 0) $$ F_closed_agS_0 with Z20
  imod (close_fam m K c agS 1) $$ F_closed_agS_1 with Z21
  imod (close_fam m K c agR 0) $$ F_closed_agR_0 with Z30
  imod (close_fam m K c agR 1) $$ F_closed_agR_1 with Z31
  ihave Hsc2 := (buf_rejoin m c) $$ [S00' F_got_rsR_0 S10' F_got_rsR_1]
  · isplitl [S00' F_got_rsR_0]
    · isplitl [S00'] <;> iassumption
    isplitl [S10'] <;> iassumption
  ihave Hsc0 := (acc_rejoin m c) $$ [A00 F_got_rsS_0 A10 F_got_rsS_1]
  · isplitl [A00 F_got_rsS_0]
    · isplitl [A00] <;> iassumption
    isplitl [A10] <;> iassumption
  ihave Hsc1 := (out_rejoin m c) $$ [O00 F_got_agS_0 F_got_agR_0 O10 F_got_agS_1 F_got_agR_1]
  · isplitl [O00 F_got_agS_0 F_got_agR_0]
    · isplitl [O00 F_got_agS_0]
      · isplitl [O00] <;> iassumption
      iassumption
    isplitl [O10 F_got_agS_1]
    · isplitl [O10] <;> iassumption
    iassumption
  imodintro
  iapply Hk $$ %(insert (SemLoc.dma (semAt (arr agS) 1 31), ()) (insert (SemLoc.dma (semAt (arr agS) 1 30), ()) (insert (SemLoc.dma (semAt (arr agS) 1 29), ()) (insert (SemLoc.dma (semAt (arr agS) 1 28), ()) (insert (SemLoc.dma (semAt (arr agS) 1 27), ()) (insert (SemLoc.dma (semAt (arr agS) 1 26), ()) ((insert (SemLoc.dma (semAt (arr agS) 1 25), ()) (insert (SemLoc.dma (semAt (arr agS) 1 24), ()) (insert (SemLoc.dma (semAt (arr agS) 1 23), ()) (insert (SemLoc.dma (semAt (arr agS) 1 22), ()) (insert (SemLoc.dma (semAt (arr agS) 1 21), ()) ((insert (SemLoc.dma (semAt (arr agS) 1 20), ()) (insert (SemLoc.dma (semAt (arr agS) 1 19), ()) (insert (SemLoc.dma (semAt (arr agS) 1 18), ()) (insert (SemLoc.dma (semAt (arr agS) 1 17), ()) (insert (SemLoc.dma (semAt (arr agS) 1 16), ()) ((insert (SemLoc.dma (semAt (arr agS) 1 15), ()) (insert (SemLoc.dma (semAt (arr agS) 1 14), ()) (insert (SemLoc.dma (semAt (arr agS) 1 13), ()) (insert (SemLoc.dma (semAt (arr agS) 1 12), ()) (insert (SemLoc.dma (semAt (arr agS) 1 11), ()) ((insert (SemLoc.dma (semAt (arr agS) 1 10), ()) (insert (SemLoc.dma (semAt (arr agS) 1 9), ()) (insert (SemLoc.dma (semAt (arr agS) 1 8), ()) (insert (SemLoc.dma (semAt (arr agS) 1 7), ()) (insert (SemLoc.dma (semAt (arr agS) 1 6), ()) ((insert (SemLoc.dma (semAt (arr agS) 1 5), ()) (insert (SemLoc.dma (semAt (arr agS) 1 4), ()) (insert (SemLoc.dma (semAt (arr agS) 1 3), ()) (insert (SemLoc.dma (semAt (arr agS) 1 2), ()) (insert (SemLoc.dma (semAt (arr agS) 1 1), ()) ((insert (SemLoc.dma (semAt (arr agS) 0 31), ()) (insert (SemLoc.dma (semAt (arr agS) 0 30), ()) (insert (SemLoc.dma (semAt (arr agS) 0 29), ()) (insert (SemLoc.dma (semAt (arr agS) 0 28), ()) (insert (SemLoc.dma (semAt (arr agS) 0 27), ()) ((insert (SemLoc.dma (semAt (arr agS) 0 26), ()) (insert (SemLoc.dma (semAt (arr agS) 0 25), ()) (insert (SemLoc.dma (semAt (arr agS) 0 24), ()) (insert (SemLoc.dma (semAt (arr agS) 0 23), ()) (insert (SemLoc.dma (semAt (arr agS) 0 22), ()) ((insert (SemLoc.dma (semAt (arr agS) 0 21), ()) (insert (SemLoc.dma (semAt (arr agS) 0 20), ()) (insert (SemLoc.dma (semAt (arr agS) 0 19), ()) (insert (SemLoc.dma (semAt (arr agS) 0 18), ()) (insert (SemLoc.dma (semAt (arr agS) 0 17), ()) ((insert (SemLoc.dma (semAt (arr agS) 0 16), ()) (insert (SemLoc.dma (semAt (arr agS) 0 15), ()) (insert (SemLoc.dma (semAt (arr agS) 0 14), ()) (insert (SemLoc.dma (semAt (arr agS) 0 13), ()) (insert (SemLoc.dma (semAt (arr agS) 0 12), ()) ((insert (SemLoc.dma (semAt (arr agS) 0 11), ()) (insert (SemLoc.dma (semAt (arr agS) 0 10), ()) (insert (SemLoc.dma (semAt (arr agS) 0 9), ()) (insert (SemLoc.dma (semAt (arr agS) 0 8), ()) (insert (SemLoc.dma (semAt (arr agS) 0 7), ()) ((insert (SemLoc.dma (semAt (arr agS) 0 6), ()) (insert (SemLoc.dma (semAt (arr agS) 0 5), ()) (insert (SemLoc.dma (semAt (arr agS) 0 4), ()) (insert (SemLoc.dma (semAt (arr agS) 0 3), ()) (insert (SemLoc.dma (semAt (arr agS) 0 2), ()) ((insert (SemLoc.dma (semAt (arr agS) 0 1), ()) (insert (SemLoc.dma (semAt (arr agR) 1 31), ()) (insert (SemLoc.dma (semAt (arr agR) 1 30), ()) ((insert (SemLoc.dma (semAt (arr agR) 1 29), ()) (insert (SemLoc.dma (semAt (arr agR) 1 28), ()) ((insert (SemLoc.dma (semAt (arr agR) 1 27), ()) (insert (SemLoc.dma (semAt (arr agR) 1 26), ()) (insert (SemLoc.dma (semAt (arr agR) 1 25), ()) ((insert (SemLoc.dma (semAt (arr agR) 1 24), ()) (insert (SemLoc.dma (semAt (arr agR) 1 23), ()) ((insert (SemLoc.dma (semAt (arr agR) 1 22), ()) (insert (SemLoc.dma (semAt (arr agR) 1 21), ()) (insert (SemLoc.dma (semAt (arr agR) 1 20), ()) ((insert (SemLoc.dma (semAt (arr agR) 1 19), ()) (insert (SemLoc.dma (semAt (arr agR) 1 18), ()) ((insert (SemLoc.dma (semAt (arr agR) 1 17), ()) (insert (SemLoc.dma (semAt (arr agR) 1 16), ()) ((insert (SemLoc.dma (semAt (arr agR) 1 15), ()) (insert (SemLoc.dma (semAt (arr agR) 1 14), ()) (insert (SemLoc.dma (semAt (arr agR) 1 13), ()) ((insert (SemLoc.dma (semAt (arr agR) 1 12), ()) (insert (SemLoc.dma (semAt (arr agR) 1 11), ()) ((insert (SemLoc.dma (semAt (arr agR) 1 10), ()) (insert (SemLoc.dma (semAt (arr agR) 1 9), ()) (insert (SemLoc.dma (semAt (arr agR) 1 8), ()) ((insert (SemLoc.dma (semAt (arr agR) 1 7), ()) (insert (SemLoc.dma (semAt (arr agR) 1 6), ()) ((insert (SemLoc.dma (semAt (arr agR) 1 5), ()) (insert (SemLoc.dma (semAt (arr agR) 1 4), ()) ((insert (SemLoc.dma (semAt (arr agR) 1 3), ()) (insert (SemLoc.dma (semAt (arr agR) 1 2), ()) (insert (SemLoc.dma (semAt (arr agR) 1 1), ()) ((insert (SemLoc.dma (semAt (arr agR) 0 31), ()) (insert (SemLoc.dma (semAt (arr agR) 0 30), ()) ((insert (SemLoc.dma (semAt (arr agR) 0 29), ()) (insert (SemLoc.dma (semAt (arr agR) 0 28), ()) ((insert (SemLoc.dma (semAt (arr agR) 0 27), ()) (insert (SemLoc.dma (semAt (arr agR) 0 26), ()) (insert (SemLoc.dma (semAt (arr agR) 0 25), ()) ((insert (SemLoc.dma (semAt (arr agR) 0 24), ()) (insert (SemLoc.dma (semAt (arr agR) 0 23), ()) ((insert (SemLoc.dma (semAt (arr agR) 0 22), ()) (insert (SemLoc.dma (semAt (arr agR) 0 21), ()) ((insert (SemLoc.dma (semAt (arr agR) 0 20), ()) (insert (SemLoc.dma (semAt (arr agR) 0 19), ()) (insert (SemLoc.dma (semAt (arr agR) 0 18), ()) ((insert (SemLoc.dma (semAt (arr agR) 0 17), ()) (insert (SemLoc.dma (semAt (arr agR) 0 16), ()) ((insert (SemLoc.dma (semAt (arr agR) 0 15), ()) (insert (SemLoc.dma (semAt (arr agR) 0 14), ()) (insert (SemLoc.dma (semAt (arr agR) 0 13), ()) ((insert (SemLoc.dma (semAt (arr agR) 0 12), ()) (insert (SemLoc.dma (semAt (arr agR) 0 11), ()) ((insert (SemLoc.dma (semAt (arr agR) 0 10), ()) (insert (SemLoc.dma (semAt (arr agR) 0 9), ()) ((insert (SemLoc.dma (semAt (arr agR) 0 8), ()) (insert (SemLoc.dma (semAt (arr agR) 0 7), ()) (insert (SemLoc.dma (semAt (arr agR) 0 6), ()) ((insert (SemLoc.dma (semAt (arr agR) 0 5), ()) (insert (SemLoc.dma (semAt (arr agR) 0 4), ()) ((insert (SemLoc.dma (semAt (arr agR) 0 3), ()) (insert (SemLoc.dma (semAt (arr agR) 0 2), ()) (insert (SemLoc.dma (semAt (arr agR) 0 1), ()) ((insert (SemLoc.dma (semAt (arr rsS) 1 31), ()) (insert (SemLoc.dma (semAt (arr rsS) 1 30), ()) (insert (SemLoc.dma (semAt (arr rsS) 1 29), ()) ((insert (SemLoc.dma (semAt (arr rsS) 1 28), ()) (insert (SemLoc.dma (semAt (arr rsS) 1 27), ()) (insert (SemLoc.dma (semAt (arr rsS) 1 26), ()) (insert (SemLoc.dma (semAt (arr rsS) 1 25), ()) ((insert (SemLoc.dma (semAt (arr rsS) 1 24), ()) (insert (SemLoc.dma (semAt (arr rsS) 1 23), ()) (insert (SemLoc.dma (semAt (arr rsS) 1 22), ()) ((insert (SemLoc.dma (semAt (arr rsS) 1 21), ()) (insert (SemLoc.dma (semAt (arr rsS) 1 20), ()) (insert (SemLoc.dma (semAt (arr rsS) 1 19), ()) (insert (SemLoc.dma (semAt (arr rsS) 1 18), ()) ((insert (SemLoc.dma (semAt (arr rsS) 1 17), ()) (insert (SemLoc.dma (semAt (arr rsS) 1 16), ()) (insert (SemLoc.dma (semAt (arr rsS) 1 15), ()) (insert (SemLoc.dma (semAt (arr rsS) 1 14), ()) ((insert (SemLoc.dma (semAt (arr rsS) 1 13), ()) (insert (SemLoc.dma (semAt (arr rsS) 1 12), ()) (insert (SemLoc.dma (semAt (arr rsS) 1 11), ()) (insert (SemLoc.dma (semAt (arr rsS) 1 10), ()) ((insert (SemLoc.dma (semAt (arr rsS) 1 9), ()) (insert (SemLoc.dma (semAt (arr rsS) 1 8), ()) (insert (SemLoc.dma (semAt (arr rsS) 1 7), ()) ((insert (SemLoc.dma (semAt (arr rsS) 1 6), ()) (insert (SemLoc.dma (semAt (arr rsS) 1 5), ()) (insert (SemLoc.dma (semAt (arr rsS) 1 4), ()) (insert (SemLoc.dma (semAt (arr rsS) 1 3), ()) ((insert (SemLoc.dma (semAt (arr rsS) 1 2), ()) (insert (SemLoc.dma (semAt (arr rsS) 1 1), ()) (insert (SemLoc.dma (semAt (arr rsS) 0 31), ()) (insert (SemLoc.dma (semAt (arr rsS) 0 30), ()) ((insert (SemLoc.dma (semAt (arr rsS) 0 29), ()) (insert (SemLoc.dma (semAt (arr rsS) 0 28), ()) (insert (SemLoc.dma (semAt (arr rsS) 0 27), ()) (insert (SemLoc.dma (semAt (arr rsS) 0 26), ()) ((insert (SemLoc.dma (semAt (arr rsS) 0 25), ()) (insert (SemLoc.dma (semAt (arr rsS) 0 24), ()) (insert (SemLoc.dma (semAt (arr rsS) 0 23), ()) ((insert (SemLoc.dma (semAt (arr rsS) 0 22), ()) (insert (SemLoc.dma (semAt (arr rsS) 0 21), ()) (insert (SemLoc.dma (semAt (arr rsS) 0 20), ()) (insert (SemLoc.dma (semAt (arr rsS) 0 19), ()) ((insert (SemLoc.dma (semAt (arr rsS) 0 18), ()) (insert (SemLoc.dma (semAt (arr rsS) 0 17), ()) (insert (SemLoc.dma (semAt (arr rsS) 0 16), ()) (insert (SemLoc.dma (semAt (arr rsS) 0 15), ()) ((insert (SemLoc.dma (semAt (arr rsS) 0 14), ()) (insert (SemLoc.dma (semAt (arr rsS) 0 13), ()) (insert (SemLoc.dma (semAt (arr rsS) 0 12), ()) (insert (SemLoc.dma (semAt (arr rsS) 0 11), ()) ((insert (SemLoc.dma (semAt (arr rsS) 0 10), ()) (insert (SemLoc.dma (semAt (arr rsS) 0 9), ()) (insert (SemLoc.dma (semAt (arr rsS) 0 8), ()) ((insert (SemLoc.dma (semAt (arr rsS) 0 7), ()) (insert (SemLoc.dma (semAt (arr rsS) 0 6), ()) (insert (SemLoc.dma (semAt (arr rsS) 0 5), ()) (insert (SemLoc.dma (semAt (arr rsS) 0 4), ()) ((insert (SemLoc.dma (semAt (arr rsS) 0 3), ()) (insert (SemLoc.dma (semAt (arr rsS) 0 2), ()) (insert (SemLoc.dma (semAt (arr rsS) 0 1), ()) (((((((((((((((insert (SemLoc.dma (semAt (arr rsR) 1 31), ()) (insert (SemLoc.dma (semAt (arr rsR) 1 30), ()) ((insert (SemLoc.dma (semAt (arr rsR) 1 29), ()) (insert (SemLoc.dma (semAt (arr rsR) 1 28), ()) ((insert (SemLoc.dma (semAt (arr rsR) 1 27), ()) (insert (SemLoc.dma (semAt (arr rsR) 1 26), ()) ((insert (SemLoc.dma (semAt (arr rsR) 1 25), ()) (insert (SemLoc.dma (semAt (arr rsR) 1 24), ()) ((insert (SemLoc.dma (semAt (arr rsR) 1 23), ()) (insert (SemLoc.dma (semAt (arr rsR) 1 22), ()) ((insert (SemLoc.dma (semAt (arr rsR) 1 21), ()) (insert (SemLoc.dma (semAt (arr rsR) 1 20), ()) ((insert (SemLoc.dma (semAt (arr rsR) 1 19), ()) (insert (SemLoc.dma (semAt (arr rsR) 1 18), ()) ((insert (SemLoc.dma (semAt (arr rsR) 1 17), ()) (insert (SemLoc.dma (semAt (arr rsR) 1 16), ()) ((insert (SemLoc.dma (semAt (arr rsR) 1 15), ()) (insert (SemLoc.dma (semAt (arr rsR) 1 14), ()) ((insert (SemLoc.dma (semAt (arr rsR) 1 13), ()) (insert (SemLoc.dma (semAt (arr rsR) 1 12), ()) ((insert (SemLoc.dma (semAt (arr rsR) 1 11), ()) (insert (SemLoc.dma (semAt (arr rsR) 1 10), ()) ((insert (SemLoc.dma (semAt (arr rsR) 1 9), ()) (insert (SemLoc.dma (semAt (arr rsR) 1 8), ()) (insert (SemLoc.dma (semAt (arr rsR) 1 7), ()) ((insert (SemLoc.dma (semAt (arr rsR) 1 6), ()) (insert (SemLoc.dma (semAt (arr rsR) 1 5), ()) ((insert (SemLoc.dma (semAt (arr rsR) 1 4), ()) (insert (SemLoc.dma (semAt (arr rsR) 1 3), ()) ((insert (SemLoc.dma (semAt (arr rsR) 1 2), ()) (insert (SemLoc.dma (semAt (arr rsR) 1 1), ()) ((((((((((((insert (SemLoc.dma (semAt (arr rsR) 0 31), ()) ((insert (SemLoc.dma (semAt (arr rsR) 0 30), ()) (insert (SemLoc.dma (semAt (arr rsR) 0 29), ()) ((insert (SemLoc.dma (semAt (arr rsR) 0 28), ()) (insert (SemLoc.dma (semAt (arr rsR) 0 27), ()) ((insert (SemLoc.dma (semAt (arr rsR) 0 26), ()) (insert (SemLoc.dma (semAt (arr rsR) 0 25), ()) ((insert (SemLoc.dma (semAt (arr rsR) 0 24), ()) (insert (SemLoc.dma (semAt (arr rsR) 0 23), ()) ((insert (SemLoc.dma (semAt (arr rsR) 0 22), ()) (insert (SemLoc.dma (semAt (arr rsR) 0 21), ()) ((insert (SemLoc.dma (semAt (arr rsR) 0 20), ()) (insert (SemLoc.dma (semAt (arr rsR) 0 19), ()) ((insert (SemLoc.dma (semAt (arr rsR) 0 18), ()) (insert (SemLoc.dma (semAt (arr rsR) 0 17), ()) ((insert (SemLoc.dma (semAt (arr rsR) 0 16), ()) (insert (SemLoc.dma (semAt (arr rsR) 0 15), ()) ((insert (SemLoc.dma (semAt (arr rsR) 0 14), ()) (insert (SemLoc.dma (semAt (arr rsR) 0 13), ()) ((insert (SemLoc.dma (semAt (arr rsR) 0 12), ()) (insert (SemLoc.dma (semAt (arr rsR) 0 11), ()) ((insert (SemLoc.dma (semAt (arr rsR) 0 10), ()) (insert (SemLoc.dma (semAt (arr rsR) 0 9), ()) (insert (SemLoc.dma (semAt (arr rsR) 0 8), ()) ((insert (SemLoc.dma (semAt (arr rsR) 0 7), ()) (insert (SemLoc.dma (semAt (arr rsR) 0 6), ()) ((insert (SemLoc.dma (semAt (arr rsR) 0 5), ()) (insert (SemLoc.dma (semAt (arr rsR) 0 4), ()) ((insert (SemLoc.dma (semAt (arr rsR) 0 3), ()) (insert (SemLoc.dma (semAt (arr rsR) 0 2), ()) ((insert (SemLoc.dma (semAt (arr rsR) 0 1), ()) ((((((((((((((((((((((((((((((insert (SemLoc.reg barS, ()) (W)))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))
  unfold Φ₁ usedSems
  isplitl [Hsc0 Hsc1 Hsc2 Z00 Z01 Z10 Z11 Z20 Z21 Z30 Z31 F_idle]
  · isplitl [Hsc0]
    · iexact Hsc0
    isplitl [Hsc1]
    · iexact Hsc1
    isplitl [Hsc2]
    · iexact Hsc2
    isplitl [Z00 Z01 Z10 Z11 Z20 Z21 Z30 Z31]
    · isplitl [Z00]
      · iexact Z00
      isplitl [Z01]
      · iexact Z01
      isplitl [Z10]
      · iexact Z10
      isplitl [Z11]
      · iexact Z11
      isplitl [Z20]
      · iexact Z20
      isplitl [Z21]
      · iexact Z21
      isplitl [Z30]
      · iexact Z30
      iexact Z31
    iexact F_idle
  isplitl [H_owes]
  · iexact H_owes
  isplitl [F_stgX]
  · iexact F_stgX
  isplitl [F_stgW]
  · iexact F_stgW
  iexact F_stg2done

end Cert.Kernel.AllReduce

end
-- ==== Proof.lean ====
/- The five claims of this certificate, assembled.

   The kernel is a K-split matrix product on 32 devices followed by an all-reduce and the tanh form of GELU:
   device d holds the 32-column slab X[:, 32d:32d+32] and the 32-row slab W[32d:32d+32, :], forms the partial
   product of its slabs, sends row chunk c of it to device c, which sums the 32 chunks it holds (its own and 31
   received), applies GELU and broadcasts the finished chunk to every device. The reference is GELU of the one
   product X·W. Over the extended reals the two agree: the sum over k < 1024 is the sum over the 32 slabs of the
   sums over their 32 columns (addition is associative and commutative), and the cubic term ((a·y)·y)·y of the
   kernel is the reference's a·((y·y)·y) (multiplication is associative and commutative); neither law needs the
   inputs finite.

   How it is proved. The run of the 32 devices is one launch with a protocol of its own beside the pipeline's: every
   device signals its 31 peers' barrier cells on entry (each signal hands the peer the slot and the gather rows that
   peer will fill) and waits for 31; each copy owes its destination's receive cell one chunk's credit and its own send
   cell its source back; receive cells sit above the barrier cells, gather receives above reduce receives, so every wait
   sits below what the waiter still owes. The body is proved part by part: one statement per printed part of the body over
   the resources that part touches, composed along the body's sequence; the three scratch buffers are cut into the 64
   chunks the copies move and rejoined at the end. The frames read the argument arrays off the run; the algebraic claim
   reads the result array, which is the same function of the launch memory on every device, and compares it with the
   reference's term by the two laws above. -/
import proofs.«900438_g7700000000000439_dist_gemm_ar_m1024_k1024_n1024_f32_gelu_v7x_i32_1_alg».proof.Defs
import proofs.«900438_g7700000000000439_dist_gemm_ar_m1024_k1024_n1024_f32_gelu_v7x_i32_1_alg».proof.Proof.Gen.Kernel
import proofs.«900438_g7700000000000439_dist_gemm_ar_m1024_k1024_n1024_f32_gelu_v7x_i32_1_alg».proof.Proof.Gen.Kernel.Skeleton
import proofs.«900438_g7700000000000439_dist_gemm_ar_m1024_k1024_n1024_f32_gelu_v7x_i32_1_alg».proof.Proof.Gen.Kernel.Launch
import proofs.«900438_g7700000000000439_dist_gemm_ar_m1024_k1024_n1024_f32_gelu_v7x_i32_1_alg».proof.Proof.Gen.Kernel.Points
import proofs.«900438_g7700000000000439_dist_gemm_ar_m1024_k1024_n1024_f32_gelu_v7x_i32_1_alg».proof.Proof.Gen.Kernel.Frame
import proofs.«900438_g7700000000000439_dist_gemm_ar_m1024_k1024_n1024_f32_gelu_v7x_i32_1_alg».proof.Proof.Gen.KernelIdeal
import proofs.«900438_g7700000000000439_dist_gemm_ar_m1024_k1024_n1024_f32_gelu_v7x_i32_1_alg».proof.Proof.Gen.KernelIdeal.Skeleton
import proofs.«900438_g7700000000000439_dist_gemm_ar_m1024_k1024_n1024_f32_gelu_v7x_i32_1_alg».proof.Proof.Gen.KernelIdeal.Launch
import proofs.«900438_g7700000000000439_dist_gemm_ar_m1024_k1024_n1024_f32_gelu_v7x_i32_1_alg».proof.Proof.Gen.KernelIdeal.Points
import proofs.«900438_g7700000000000439_dist_gemm_ar_m1024_k1024_n1024_f32_gelu_v7x_i32_1_alg».proof.Proof.Gen.KernelIdeal.Frame
import proofs.«900438_g7700000000000439_dist_gemm_ar_m1024_k1024_n1024_f32_gelu_v7x_i32_1_alg».proof.Proof.Gen.ReferenceIdeal
import proofs.«900438_g7700000000000439_dist_gemm_ar_m1024_k1024_n1024_f32_gelu_v7x_i32_1_alg».proof.Proof.Gen.ReferenceIdeal.Run
import proofs.«900438_g7700000000000439_dist_gemm_ar_m1024_k1024_n1024_f32_gelu_v7x_i32_1_alg».proof.Proof.Gen.ReferenceIdeal.Read
import proofs.«900438_g7700000000000439_dist_gemm_ar_m1024_k1024_n1024_f32_gelu_v7x_i32_1_alg».proof.Proof.Gen.Pre_finite_inputs_Kernel
import proofs.«900438_g7700000000000439_dist_gemm_ar_m1024_k1024_n1024_f32_gelu_v7x_i32_1_alg».proof.Proof.Gen.Pre_finite_inputs_ReferenceIdeal
import proofs.«900438_g7700000000000439_dist_gemm_ar_m1024_k1024_n1024_f32_gelu_v7x_i32_1_alg».proof.Proof.LaunchFrames
import proofs.«900438_g7700000000000439_dist_gemm_ar_m1024_k1024_n1024_f32_gelu_v7x_i32_1_alg».proof.Proof.BodyShell
import proofs.«900438_g7700000000000439_dist_gemm_ar_m1024_k1024_n1024_f32_gelu_v7x_i32_1_alg».proof.Proof.AlgebraicClaim
import proofs.«900438_g7700000000000439_dist_gemm_ar_m1024_k1024_n1024_f32_gelu_v7x_i32_1_alg».proof.Proof.BodyCompose
import proofs.«900438_g7700000000000439_dist_gemm_ar_m1024_k1024_n1024_f32_gelu_v7x_i32_1_alg».proof.Proof.Word.LaunchFrames
import proofs.«900438_g7700000000000439_dist_gemm_ar_m1024_k1024_n1024_f32_gelu_v7x_i32_1_alg».proof.Proof.Word.BodyShell
import proofs.«900438_g7700000000000439_dist_gemm_ar_m1024_k1024_n1024_f32_gelu_v7x_i32_1_alg».proof.Proof.Word.BodyCompose
import Idealize.ShloMosaic.Adequacy
import Idealize.ShloMosaic.Init

noncomputable section

namespace Cert.Proof

open Idealize.ShloMosaic Idealize.SL.Sem Cert.Kernel

/-- The reference is a straight line of host operations: its generated run, with the value dropped. -/
theorem frame_reference [hR : Cert.ReferenceIdeal.Facts] [hP : Cert.Pre_finite_inputs_ReferenceIdeal.Facts] : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, by
  refine ⟨?_, ?_, @frame_reference _ _, preserves, ?_⟩
  · exact fun m ρ _ => Cert.Kernel.AllReduce.frame_run m ρ (Cert.Kernel.AllReduce.body_obligation m ρ (Cert.Kernel.AllReduce.sound_body m))
  · exact fun m ρ _ => Cert.KernelIdeal.AllReduce.frame_run m ρ (Cert.KernelIdeal.AllReduce.body_obligation m ρ (Cert.KernelIdeal.AllReduce.sound_body m))
  · exact Cert.GemmGelu.algebraic_of_body fun m ρ c => Cert.KernelIdeal.AllReduce.body_obligation m ρ (Cert.KernelIdeal.AllReduce.sound_body m) c⟩

end Cert.Proof

end
